-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S16384x5 : Shape := ⟨2, ![16384, 5]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16384 : S_.BroadcastsInDim S16384 (![] : Fin 0 → Fin S16384.rank)
  reducesTo_S16384_S_d0 : S16384.ReducesTo [0] S_
  bcast_S_S16384x5 : S_.BroadcastsInDim S16384x5 (![] : Fin 0 → Fin S16384x5.rank)
  reducesTo_S16384x5_S_d0_1 : S16384x5.ReducesTo [0, 1] S_

variable [Facts]

def fn_part1 {F : FTy → Type} [FloatOps F] (main_arg1 : IVec S16384 32) (main_arg2 : IVec S16384x5 32) (main_v15 : IVec S_ 1) (main_c_5 : IVec S_ 32) : IVec S_ 1 :=
  let main_v16 : IVec S16384 32 := broadcastInDim S16384 ![] bcast_S_S16384 main_c_5
  let main_v17 : IVec S16384 1 := cmpi .sge main_arg1 main_v16
  let main_c_6 : IVec S_ 32 := constantI S_ 32 999999#32
  let main_v18 : IVec S16384 32 := broadcastInDim S16384 ![] bcast_S_S16384 main_c_6
  let main_v19 : IVec S16384 1 := cmpi .sle main_arg1 main_v18
  let main_v20 : IVec S16384 1 := andi main_v17 main_v19
  let main_c_7 : IVec S_ 1 := constantI S_ 1 1#1
  let main_v21 : IVec S_ 1 := (fun x v => Host.reduce IntOp.andi x v reducesTo_S16384_S_d0 h_S_) main_v20 main_c_7
  let main_v22 : IVec S_ 1 := andi main_v15 main_v21
  let main_c_8 : IVec S_ 32 := constantI S_ 32 0#32
  let main_v23 : IVec S16384x5 32 := broadcastInDim S16384x5 ![] bcast_S_S16384x5 main_c_8
  let main_v24 : IVec S16384x5 1 := cmpi .sge main_arg2 main_v23
  let main_c_9 : IVec S_ 32 := constantI S_ 32 999999#32
  let main_v25 : IVec S16384x5 32 := broadcastInDim S16384x5 ![] bcast_S_S16384x5 main_c_9
  let main_v26 : IVec S16384x5 1 := cmpi .sle main_arg2 main_v25
  let main_v27 : IVec S16384x5 1 := andi main_v24 main_v26
  let main_c_10 : IVec S_ 1 := constantI S_ 1 1#1
  let main_v28 : IVec S_ 1 := (fun x v => Host.reduce IntOp.andi x v reducesTo_S16384x5_S_d0_1 h_S_) main_v27 main_c_10
  let main_v29 : IVec S_ 1 := andi main_v22 main_v28
  main_v29

def fn {F : FTy → Type} [FloatOps F] (main_arg0 : IVec S16384 32) (main_arg1 : IVec S16384 32) (main_arg2 : IVec S16384x5 32) (main_arg3 : FVec F S1000000x64 .f32) (main_arg4 : FVec F S1000000x64 .f32) : IVec S_ 1 :=
  let main_v0 : FVec F S1000000x64 .f32 := Host.absf main_arg3
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x64 .f32 := Host.absf main_arg4
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg0 main_v9
  let main_c_3 : IVec S_ 32 := constantI S_ 32 999999#32
  let main_v11 : IVec S16384 32 := broadcastInDim S16384 ![] bcast_S_S16384 main_c_3
  let main_v12 : IVec S16384 1 := cmpi .sle main_arg0 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  let main_c_5 : IVec S_ 32 := constantI S_ 32 0#32
  fn_part1 (F := F) main_arg1 main_arg2 main_v15 main_c_5
-- ==== Kernel.lean ====
abbrev S16384 : Shape := ⟨1, ![16384]⟩
abbrev S16384x5 : Shape := ⟨2, ![16384, 5]⟩
abbrev S1000000x64 : Shape := ⟨2, ![1000000, 64]⟩
abbrev S81920 : Shape := ⟨1, ![81920]⟩
abbrev S1310720 : Shape := ⟨1, ![1310720]⟩
abbrev S16384x64 : Shape := ⟨2, ![16384, 64]⟩
abbrev S512 : Shape := ⟨1, ![512]⟩
abbrev S2560 : Shape := ⟨1, ![2560]⟩
abbrev S64x64 : Shape := ⟨2, ![64, 64]⟩
abbrev S320x64 : Shape := ⟨2, ![320, 64]⟩
abbrev S40960 : Shape := ⟨1, ![40960]⟩
abbrev S_ : Shape := ⟨0, ![]⟩
abbrev S16 : Shape := ⟨1, ![16]⟩
abbrev S1 : Shape := ⟨1, ![1]⟩
abbrev S1x64 : Shape := ⟨2, ![1, 64]⟩
abbrev S64 : Shape := ⟨1, ![64]⟩
abbrev S1x16 : Shape := ⟨2, ![1, 16]⟩
abbrev S262144 : Shape := ⟨1, ![262144]⟩
abbrev S8192 : Shape := ⟨1, ![8192]⟩
abbrev S10240x128 : Shape := ⟨2, ![10240, 128]⟩
abbrev S2048x128 : Shape := ⟨2, ![2048, 128]⟩
abbrev S1x1 : Shape := ⟨2, ![1, 1]⟩
abbrev S128x8 : Shape := ⟨2, ![128, 8]⟩
abbrev S10240x8 : Shape := ⟨2, ![10240, 8]⟩
abbrev S2048x8 : Shape := ⟨2, ![2048, 8]⟩
abbrev S1x10240x8 : Shape := ⟨3, ![1, 10240, 8]⟩
abbrev S1x1x1 : Shape := ⟨3, ![1, 1, 1]⟩
abbrev S1x2048x8 : Shape := ⟨3, ![1, 2048, 8]⟩

abbrev nBuf : Table → Nat
  | .hbm => 13
  | .local .tc .vmem => 2
  | .local .tc .smem => 1
  | .local .scVector .vmem => 9
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384x5, .i32⟩
  | .hbm, ⟨3, _⟩ => ⟨S1000000x64, .f32⟩
  | .hbm, ⟨4, _⟩ => ⟨S1000000x64, .f32⟩
  | .hbm, ⟨5, _⟩ => ⟨S81920, .i32⟩
  | .hbm, ⟨6, _⟩ => ⟨S1310720, .f32⟩
  | .hbm, ⟨7, _⟩ => ⟨S16384x64, .f32⟩
  | .hbm, ⟨8, _⟩ => ⟨S262144, .f32⟩
  | .hbm, ⟨9, _⟩ => ⟨S10240x128, .f32⟩
  | .hbm, ⟨10, _⟩ => ⟨S2048x128, .f32⟩
  | .hbm, ⟨11, _⟩ => ⟨S1x1, .f32⟩
  | .hbm, ⟨12, _⟩ => ⟨S_, .f32⟩
  | .local .tc .vmem, ⟨0, _⟩ => ⟨S10240x128, .f32⟩
  | .local .tc .vmem, ⟨1, _⟩ => ⟨S2048x128, .f32⟩
  | .local .tc .smem, ⟨0, _⟩ => ⟨S1x1, .f32⟩
  | .local .scVector .vmem, ⟨0, _⟩ => ⟨S512, .i32⟩
  | .local .scVector .vmem, ⟨1, _⟩ => ⟨S2560, .i32⟩
  | .local .scVector .vmem, ⟨2, _⟩ => ⟨S64x64, .f32⟩
  | .local .scVector .vmem, ⟨3, _⟩ => ⟨S320x64, .f32⟩
  | .local .scVector .vmem, ⟨4, _⟩ => ⟨S40960, .f32⟩
  | .local .scVector .vmem, ⟨5, _⟩ => ⟨S512, .i32⟩
  | .local .scVector .vmem, ⟨6, _⟩ => ⟨S64x64, .f32⟩
  | .local .scVector .vmem, ⟨7, _⟩ => ⟨S64x64, .f32⟩
  | .local .scVector .vmem, ⟨8, _⟩ => ⟨S8192, .f32⟩
  | _, _ => ⟨S16384, .i32⟩

abbrev bufScoped : (cs : CoreSpace) → Fin (nBuf (.local .tc cs)) → Bool
  | .vmem, ⟨0, _⟩ => true
  | .vmem, ⟨1, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => true
  | ⟨24, _⟩ => true
  | ⟨25, _⟩ => true
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_arg1_scv : Ref sig .scVector := ⟨.hbm, 1, rfl⟩
abbrev main_v0_scv : Ref sig .scVector := ⟨.hbm, 5, rfl⟩
abbrev main_arg4_scv : Ref sig .scVector := ⟨.hbm, 4, rfl⟩
abbrev main_v1_0_scv : Ref sig .scVector := ⟨.hbm, 6, rfl⟩
abbrev main_v1_1_scv : Ref sig .scVector := ⟨.hbm, 7, rfl⟩
abbrev main_arg0_scv : Ref sig .scVector := ⟨.hbm, 0, rfl⟩
abbrev main_arg3_scv : Ref sig .scVector := ⟨.hbm, 3, rfl⟩
abbrev main_v2_scv : Ref sig .scVector := ⟨.hbm, 8, rfl⟩
abbrev cc2_stg0_0 : Ref sig .tc := ⟨.vmem, 0, rfl⟩
abbrev cc2_stg1_0 : Ref sig .tc := ⟨.vmem, 1, rfl⟩
abbrev cc2_stg2_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_scratch0 : Ref sig .scVector := ⟨.vmem, 5, rfl⟩
abbrev cc1_scratch1 : Ref sig .scVector := ⟨.vmem, 6, rfl⟩
abbrev cc1_scratch2 : Ref sig .scVector := ⟨.vmem, 7, rfl⟩
abbrev cc1_scratch3 : Ref sig .scVector := ⟨.vmem, 8, rfl⟩
abbrev cc2_sem0_0 : DmaSem sig := 23
abbrev cc2_sem1_0 : DmaSem sig := 24
abbrev cc2_sem2_0 : DmaSem sig := 25
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c5_i32 : BitVec 32 := 5#32
  let v3 : BitVec 32 := Scalar.muli v2 c5_i32
  ![v3.toNat]
@[reducible] def k0_t1_loop : Scf.Loop 32 :=
  let c0_i32_0 : BitVec 32 := 0#32
  let c4_i32 : BitVec 32 := 4#32
  let v4 : BitVec 32 := Scalar.addi c0_i32_0 c4_i32
  let c1_i32 : BitVec 32 := 1#32
  ⟨c0_i32_0, v4, c1_i32⟩
def k0_off3 (k0_t1 : Fin k0_t1_loop.trips) : Fin 1 → Nat :=
  let c0_i32_118 : BitVec 32 := 0#32
  let c0_i32_0 : BitVec 32 := 0#32
  let c1_i32 : BitVec 32 := 1#32
  let arg13 : BitVec 32 := Scf.iv c0_i32_0 c1_i32 k0_t1
  let c16_i32 : BitVec 32 := 16#32
  let v37 : BitVec 32 := Scalar.muli arg13 c16_i32
  let v38 : BitVec 32 := Scalar.addi c0_i32_118 v37
  let v39 : Index := Scalar.indexCast v38
  ![v39.toNat]
def k0_off4 (k0_t1 : Fin k0_t1_loop.trips) (c0_i32_121 : BitVec 32) : Fin 1 → Nat :=
  let c0_i32_120 : BitVec 32 := 0#32
  let c0_i32_0 : BitVec 32 := 0#32
  let c1_i32 : BitVec 32 := 1#32
  let arg13 : BitVec 32 := Scf.iv c0_i32_0 c1_i32 k0_t1
  let c80_i32_119 : BitVec 32 := 80#32
  let v42 : BitVec 32 := Scalar.muli arg13 c80_i32_119
  let v43 : BitVec 32 := Scalar.addi c0_i32_120 v42
  let v44 : BitVec 32 := Scalar.addi v43 c0_i32_121
  let v45 : Index := Scalar.indexCast v44
  ![v45.toNat]
def k0_off5 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_132 : BitVec 32 := 16#32
  let v72 : BitVec 32 := Scalar.muli arg13 c16_i32_132
  let c0_i32_133 : BitVec 32 := 0#32
  let v73 : BitVec 32 := Scalar.addi v72 c0_i32_133
  let c0_i32_134 : BitVec 32 := 0#32
  ![v73.toNat, 0]
def k0_off6 (v75 : BitVec 32) : Fin 2 → Nat :=
  let c0_i32_135 : BitVec 32 := 0#32
  ![v75.toNat, 0]

def k0_chk1 (v75 : BitVec 32) : Prop :=
  (∀ a, (k0_off6 v75) a + S1x64.size a ≤ S1000000x64.size a)
instance k0_chk1.dec : ∀ (v75 : BitVec 32), Decidable (k0_chk1 v75) := fun v75 => decidable_of_iff' _ (Iff.of_eq (k0_chk1.eq_1 v75))
theorem k0_off6_inb : ∀ (v75 : BitVec 32) (k0_hw1 : k0_chk1 v75), ∀ a, (k0_off6 v75) a + S1x64.size a ≤ S1000000x64.size a := fun v75 k0_hw1 => k0_hw1

def k0_off7 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_132 : BitVec 32 := 16#32
  let v72 : BitVec 32 := Scalar.muli arg13 c16_i32_132
  let c0_i32_133 : BitVec 32 := 0#32
  let v73 : BitVec 32 := Scalar.addi v72 c0_i32_133
  let c0_i32_136 : BitVec 32 := 0#32
  ![v73.toNat, 0]
def k0_off8 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_132 : BitVec 32 := 16#32
  let v72 : BitVec 32 := Scalar.muli arg13 c16_i32_132
  let c0_i32_133 : BitVec 32 := 0#32
  let v73 : BitVec 32 := Scalar.addi v72 c0_i32_133
  let c5_i32_138 : BitVec 32 := 5#32
  let v86 : BitVec 32 := Scalar.muli v73 c5_i32_138
  let c0_i32_139 : BitVec 32 := 0#32
  let v87 : BitVec 32 := Scalar.addi v86 c0_i32_139
  let c0_i32_140 : BitVec 32 := 0#32
  ![v87.toNat, 0]
def k0_off9 (v85 : BitVec 32) : Fin 2 → Nat :=
  let c0_i32_141 : BitVec 32 := 0#32
  ![v85.toNat, 0]

def k0_chk2 (v85 : BitVec 32) : Prop :=
  (∀ a, (k0_off9 v85) a + S1x64.size a ≤ S1000000x64.size a)
instance k0_chk2.dec : ∀ (v85 : BitVec 32), Decidable (k0_chk2 v85) := fun v85 => decidable_of_iff' _ (Iff.of_eq (k0_chk2.eq_1 v85))
theorem k0_off9_inb : ∀ (v85 : BitVec 32) (k0_hw2 : k0_chk2 v85), ∀ a, (k0_off9 v85) a + S1x64.size a ≤ S1000000x64.size a := fun v85 k0_hw2 => k0_hw2

def k0_off10 (k0_t1 : Fin k0_t1_loop.trips) (c0_i32_139 : BitVec 32) : Fin 2 → Nat :=
  let c0_i32_0 : BitVec 32 := 0#32
  let c1_i32 : BitVec 32 := 1#32
  let arg13 : BitVec 32 := Scf.iv c0_i32_0 c1_i32 k0_t1
  let c16_i32_132 : BitVec 32 := 16#32
  let v72 : BitVec 32 := Scalar.muli arg13 c16_i32_132
  let c0_i32_133 : BitVec 32 := 0#32
  let v73 : BitVec 32 := Scalar.addi v72 c0_i32_133
  let c5_i32_138 : BitVec 32 := 5#32
  let v86 : BitVec 32 := Scalar.muli v73 c5_i32_138
  let v87 : BitVec 32 := Scalar.addi v86 c0_i32_139
  let c0_i32_142 : BitVec 32 := 0#32
  ![v87.toNat, 0]
def k0_off11 (v97 : BitVec 32) : Fin 2 → Nat :=
  let c0_i32_147 : BitVec 32 := 0#32
  ![v97.toNat, 0]

def k0_chk3 (v97 : BitVec 32) : Prop :=
  (∀ a, (k0_off11 v97) a + S1x64.size a ≤ S1000000x64.size a)
instance k0_chk3.dec : ∀ (v97 : BitVec 32), Decidable (k0_chk3 v97) := fun v97 => decidable_of_iff' _ (Iff.of_eq (k0_chk3.eq_1 v97))
theorem k0_off11_inb : ∀ (v97 : BitVec 32) (k0_hw3 : k0_chk3 v97), ∀ a, (k0_off11 v97) a + S1x64.size a ≤ S1000000x64.size a := fun v97 k0_hw3 => k0_hw3

def k0_off12 (k0_t1 : Fin k0_t1_loop.trips) (c1_i32_145 : BitVec 32) : Fin 2 → Nat :=
  let c0_i32_0 : BitVec 32 := 0#32
  let c1_i32 : BitVec 32 := 1#32
  let arg13 : BitVec 32 := Scf.iv c0_i32_0 c1_i32 k0_t1
  let c16_i32_132 : BitVec 32 := 16#32
  let v72 : BitVec 32 := Scalar.muli arg13 c16_i32_132
  let c0_i32_133 : BitVec 32 := 0#32
  let v73 : BitVec 32 := Scalar.addi v72 c0_i32_133
  let c5_i32_144 : BitVec 32 := 5#32
  let v98 : BitVec 32 := Scalar.muli v73 c5_i32_144
  let v99 : BitVec 32 := Scalar.addi v98 c1_i32_145
  let c0_i32_148 : BitVec 32 := 0#32
  ![v99.toNat, 0]
def k0_off13 (v109 : BitVec 32) : Fin 2 → Nat :=
  let c0_i32_153 : BitVec 32 := 0#32
  ![v109.toNat, 0]

def k0_chk4 (v109 : BitVec 32) : Prop :=
  (∀ a, (k0_off13 v109) a + S1x64.size a ≤ S1000000x64.size a)
instance k0_chk4.dec : ∀ (v109 : BitVec 32), Decidable (k0_chk4 v109) := fun v109 => decidable_of_iff' _ (Iff.of_eq (k0_chk4.eq_1 v109))
theorem k0_off13_inb : ∀ (v109 : BitVec 32) (k0_hw4 : k0_chk4 v109), ∀ a, (k0_off13 v109) a + S1x64.size a ≤ S1000000x64.size a := fun v109 k0_hw4 => k0_hw4

def k0_off14 (k0_t1 : Fin k0_t1_loop.trips) (c2_i32_151 : BitVec 32) : Fin 2 → Nat :=
  let c0_i32_0 : BitVec 32 := 0#32
  let c1_i32 : BitVec 32 := 1#32
  let arg13 : BitVec 32 := Scf.iv c0_i32_0 c1_i32 k0_t1
  let c16_i32_132 : BitVec 32 := 16#32
  let v72 : BitVec 32 := Scalar.muli arg13 c16_i32_132
  let c0_i32_133 : BitVec 32 := 0#32
  let v73 : BitVec 32 := Scalar.addi v72 c0_i32_133
  let c5_i32_150 : BitVec 32 := 5#32
  let v110 : BitVec 32 := Scalar.muli v73 c5_i32_150
  let v111 : BitVec 32 := Scalar.addi v110 c2_i32_151
  let c0_i32_154 : BitVec 32 := 0#32
  ![v111.toNat, 0]
def k0_off15 (v121 : BitVec 32) : Fin 2 → Nat :=
  let c0_i32_158 : BitVec 32 := 0#32
  ![v121.toNat, 0]

def k0_chk5 (v121 : BitVec 32) : Prop :=
  (∀ a, (k0_off15 v121) a + S1x64.size a ≤ S1000000x64.size a)
instance k0_chk5.dec : ∀ (v121 : BitVec 32), Decidable (k0_chk5 v121) := fun v121 => decidable_of_iff' _ (Iff.of_eq (k0_chk5.eq_1 v121))
theorem k0_off15_inb : ∀ (v121 : BitVec 32) (k0_hw5 : k0_chk5 v121), ∀ a, (k0_off15 v121) a + S1x64.size a ≤ S1000000x64.size a := fun v121 k0_hw5 => k0_hw5

def k0_off16 (k0_t1 : Fin k0_t1_loop.trips) (c3_i32 : BitVec 32) : Fin 2 → Nat :=
  let c0_i32_0 : BitVec 32 := 0#32
  let c1_i32 : BitVec 32 := 1#32
  let arg13 : BitVec 32 := Scf.iv c0_i32_0 c1_i32 k0_t1
  let c16_i32_132 : BitVec 32 := 16#32
  let v72 : BitVec 32 := Scalar.muli arg13 c16_i32_132
  let c0_i32_133 : BitVec 32 := 0#32
  let v73 : BitVec 32 := Scalar.addi v72 c0_i32_133
  let c5_i32_156 : BitVec 32 := 5#32
  let v122 : BitVec 32 := Scalar.muli v73 c5_i32_156
  let v123 : BitVec 32 := Scalar.addi v122 c3_i32
  let c0_i32_159 : BitVec 32 := 0#32
  ![v123.toNat, 0]
def k0_off17 (v133 : BitVec 32) : Fin 2 → Nat :=
  let c0_i32_164 : BitVec 32 := 0#32
  ![v133.toNat, 0]

def k0_chk6 (v133 : BitVec 32) : Prop :=
  (∀ a, (k0_off17 v133) a + S1x64.size a ≤ S1000000x64.size a)
instance k0_chk6.dec : ∀ (v133 : BitVec 32), Decidable (k0_chk6 v133) := fun v133 => decidable_of_iff' _ (Iff.of_eq (k0_chk6.eq_1 v133))
theorem k0_off17_inb : ∀ (v133 : BitVec 32) (k0_hw6 : k0_chk6 v133), ∀ a, (k0_off17 v133) a + S1x64.size a ≤ S1000000x64.size a := fun v133 k0_hw6 => k0_hw6

def k0_off18 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_132 : BitVec 32 := 16#32
  let v72 : BitVec 32 := Scalar.muli arg13 c16_i32_132
  let c0_i32_133 : BitVec 32 := 0#32
  let v73 : BitVec 32 := Scalar.addi v72 c0_i32_133
  let c5_i32_161 : BitVec 32 := 5#32
  let v134 : BitVec 32 := Scalar.muli v73 c5_i32_161
  let c4_i32_162 : BitVec 32 := 4#32
  let v135 : BitVec 32 := Scalar.addi v134 c4_i32_162
  let c0_i32_165 : BitVec 32 := 0#32
  ![v135.toNat, 0]
def k0_off19 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_167 : BitVec 32 := 16#32
  let v144 : BitVec 32 := Scalar.muli arg13 c16_i32_167
  let c1_i32_168 : BitVec 32 := 1#32
  let v145 : BitVec 32 := Scalar.addi v144 c1_i32_168
  let c0_i32_169 : BitVec 32 := 0#32
  ![v145.toNat, 0]
def k0_off20 (v147 : BitVec 32) : Fin 2 → Nat :=
  let c0_i32_170 : BitVec 32 := 0#32
  ![v147.toNat, 0]

def k0_chk7 (v147 : BitVec 32) : Prop :=
  (∀ a, (k0_off20 v147) a + S1x64.size a ≤ S1000000x64.size a)
instance k0_chk7.dec : ∀ (v147 : BitVec 32), Decidable (k0_chk7 v147) := fun v147 => decidable_of_iff' _ (Iff.of_eq (k0_chk7.eq_1 v147))
theorem k0_off20_inb : ∀ (v147 : BitVec 32) (k0_hw7 : k0_chk7 v147), ∀ a, (k0_off20 v147) a + S1x64.size a ≤ S1000000x64.size a := fun v147 k0_hw7 => k0_hw7

def k0_off21 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_167 : BitVec 32 := 16#32
  let v144 : BitVec 32 := Scalar.muli arg13 c16_i32_167
  let c1_i32_168 : BitVec 32 := 1#32
  let v145 : BitVec 32 := Scalar.addi v144 c1_i32_168
  let c0_i32_171 : BitVec 32 := 0#32
  ![v145.toNat, 0]
def k0_off22 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_167 : BitVec 32 := 16#32
  let v144 : BitVec 32 := Scalar.muli arg13 c16_i32_167
  let c1_i32_168 : BitVec 32 := 1#32
  let v145 : BitVec 32 := Scalar.addi v144 c1_i32_168
  let c5_i32_173 : BitVec 32 := 5#32
  let v158 : BitVec 32 := Scalar.muli v145 c5_i32_173
  let c0_i32_174 : BitVec 32 := 0#32
  let v159 : BitVec 32 := Scalar.addi v158 c0_i32_174
  let c0_i32_175 : BitVec 32 := 0#32
  ![v159.toNat, 0]
def k0_off23 (v157 : BitVec 32) : Fin 2 → Nat :=
  let c0_i32_176 : BitVec 32 := 0#32
  ![v157.toNat, 0]

def k0_chk8 (v157 : BitVec 32) : Prop :=
  (∀ a, (k0_off23 v157) a + S1x64.size a ≤ S1000000x64.size a)
instance k0_chk8.dec : ∀ (v157 : BitVec 32), Decidable (k0_chk8 v157) := fun v157 => decidable_of_iff' _ (Iff.of_eq (k0_chk8.eq_1 v157))
theorem k0_off23_inb : ∀ (v157 : BitVec 32) (k0_hw8 : k0_chk8 v157), ∀ a, (k0_off23 v157) a + S1x64.size a ≤ S1000000x64.size a := fun v157 k0_hw8 => k0_hw8

def k0_off24 (k0_t1 : Fin k0_t1_loop.trips) (c0_i32_174 : BitVec 32) : Fin 2 → Nat :=
  let c0_i32_0 : BitVec 32 := 0#32
  let c1_i32 : BitVec 32 := 1#32
  let arg13 : BitVec 32 := Scf.iv c0_i32_0 c1_i32 k0_t1
  let c16_i32_167 : BitVec 32 := 16#32
  let v144 : BitVec 32 := Scalar.muli arg13 c16_i32_167
  let c1_i32_168 : BitVec 32 := 1#32
  let v145 : BitVec 32 := Scalar.addi v144 c1_i32_168
  let c5_i32_173 : BitVec 32 := 5#32
  let v158 : BitVec 32 := Scalar.muli v145 c5_i32_173
  let v159 : BitVec 32 := Scalar.addi v158 c0_i32_174
  let c0_i32_177 : BitVec 32 := 0#32
  ![v159.toNat, 0]
def k0_off25 (v169 : BitVec 32) : Fin 2 → Nat :=
  let c0_i32_182 : BitVec 32 := 0#32
  ![v169.toNat, 0]

def k0_chk9 (v169 : BitVec 32) : Prop :=
  (∀ a, (k0_off25 v169) a + S1x64.size a ≤ S1000000x64.size a)
instance k0_chk9.dec : ∀ (v169 : BitVec 32), Decidable (k0_chk9 v169) := fun v169 => decidable_of_iff' _ (Iff.of_eq (k0_chk9.eq_1 v169))
theorem k0_off25_inb : ∀ (v169 : BitVec 32) (k0_hw9 : k0_chk9 v169), ∀ a, (k0_off25 v169) a + S1x64.size a ≤ S1000000x64.size a := fun v169 k0_hw9 => k0_hw9

def k0_off26 (k0_t1 : Fin k0_t1_loop.trips) (c1_i32_180 : BitVec 32) : Fin 2 → Nat :=
  let c0_i32_0 : BitVec 32 := 0#32
  let c1_i32 : BitVec 32 := 1#32
  let arg13 : BitVec 32 := Scf.iv c0_i32_0 c1_i32 k0_t1
  let c16_i32_167 : BitVec 32 := 16#32
  let v144 : BitVec 32 := Scalar.muli arg13 c16_i32_167
  let c1_i32_168 : BitVec 32 := 1#32
  let v145 : BitVec 32 := Scalar.addi v144 c1_i32_168
  let c5_i32_179 : BitVec 32 := 5#32
  let v170 : BitVec 32 := Scalar.muli v145 c5_i32_179
  let v171 : BitVec 32 := Scalar.addi v170 c1_i32_180
  let c0_i32_183 : BitVec 32 := 0#32
  ![v171.toNat, 0]
def k0_off27 (v181 : BitVec 32) : Fin 2 → Nat :=
  let c0_i32_188 : BitVec 32 := 0#32
  ![v181.toNat, 0]

def k0_chk10 (v181 : BitVec 32) : Prop :=
  (∀ a, (k0_off27 v181) a + S1x64.size a ≤ S1000000x64.size a)
instance k0_chk10.dec : ∀ (v181 : BitVec 32), Decidable (k0_chk10 v181) := fun v181 => decidable_of_iff' _ (Iff.of_eq (k0_chk10.eq_1 v181))
theorem k0_off27_inb : ∀ (v181 : BitVec 32) (k0_hw10 : k0_chk10 v181), ∀ a, (k0_off27 v181) a + S1x64.size a ≤ S1000000x64.size a := fun v181 k0_hw10 => k0_hw10

def k0_off28 (k0_t1 : Fin k0_t1_loop.trips) (c2_i32_186 : BitVec 32) : Fin 2 → Nat :=
  let c0_i32_0 : BitVec 32 := 0#32
  let c1_i32 : BitVec 32 := 1#32
  let arg13 : BitVec 32 := Scf.iv c0_i32_0 c1_i32 k0_t1
  let c16_i32_167 : BitVec 32 := 16#32
  let v144 : BitVec 32 := Scalar.muli arg13 c16_i32_167
  let c1_i32_168 : BitVec 32 := 1#32
  let v145 : BitVec 32 := Scalar.addi v144 c1_i32_168
  let c5_i32_185 : BitVec 32 := 5#32
  let v182 : BitVec 32 := Scalar.muli v145 c5_i32_185
  let v183 : BitVec 32 := Scalar.addi v182 c2_i32_186
  let c0_i32_189 : BitVec 32 := 0#32
  ![v183.toNat, 0]
def k0_off29 (v193 : BitVec 32) : Fin 2 → Nat :=
  let c0_i32_194 : BitVec 32 := 0#32
  ![v193.toNat, 0]

def k0_chk11 (v193 : BitVec 32) : Prop :=
  (∀ a, (k0_off29 v193) a + S1x64.size a ≤ S1000000x64.size a)
instance k0_chk11.dec : ∀ (v193 : BitVec 32), Decidable (k0_chk11 v193) := fun v193 => decidable_of_iff' _ (Iff.of_eq (k0_chk11.eq_1 v193))
theorem k0_off29_inb : ∀ (v193 : BitVec 32) (k0_hw11 : k0_chk11 v193), ∀ a, (k0_off29 v193) a + S1x64.size a ≤ S1000000x64.size a := fun v193 k0_hw11 => k0_hw11

def k0_off30 (k0_t1 : Fin k0_t1_loop.trips) (c3_i32_192 : BitVec 32) : Fin 2 → Nat :=
  let c0_i32_0 : BitVec 32 := 0#32
  let c1_i32 : BitVec 32 := 1#32
  let arg13 : BitVec 32 := Scf.iv c0_i32_0 c1_i32 k0_t1
  let c16_i32_167 : BitVec 32 := 16#32
  let v144 : BitVec 32 := Scalar.muli arg13 c16_i32_167
  let c1_i32_168 : BitVec 32 := 1#32
  let v145 : BitVec 32 := Scalar.addi v144 c1_i32_168
  let c5_i32_191 : BitVec 32 := 5#32
  let v194 : BitVec 32 := Scalar.muli v145 c5_i32_191
  let v195 : BitVec 32 := Scalar.addi v194 c3_i32_192
  let c0_i32_195 : BitVec 32 := 0#32
  ![v195.toNat, 0]
def k0_off31 (v205 : BitVec 32) : Fin 2 → Nat :=
  let c0_i32_200 : BitVec 32 := 0#32
  ![v205.toNat, 0]

def k0_chk12 (v205 : BitVec 32) : Prop :=
  (∀ a, (k0_off31 v205) a + S1x64.size a ≤ S1000000x64.size a)
instance k0_chk12.dec : ∀ (v205 : BitVec 32), Decidable (k0_chk12 v205) := fun v205 => decidable_of_iff' _ (Iff.of_eq (k0_chk12.eq_1 v205))
theorem k0_off31_inb : ∀ (v205 : BitVec 32) (k0_hw12 : k0_chk12 v205), ∀ a, (k0_off31 v205) a + S1x64.size a ≤ S1000000x64.size a := fun v205 k0_hw12 => k0_hw12

def k0_off32 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_167 : BitVec 32 := 16#32
  let v144 : BitVec 32 := Scalar.muli arg13 c16_i32_167
  let c1_i32_168 : BitVec 32 := 1#32
  let v145 : BitVec 32 := Scalar.addi v144 c1_i32_168
  let c5_i32_197 : BitVec 32 := 5#32
  let v206 : BitVec 32 := Scalar.muli v145 c5_i32_197
  let c4_i32_198 : BitVec 32 := 4#32
  let v207 : BitVec 32 := Scalar.addi v206 c4_i32_198
  let c0_i32_201 : BitVec 32 := 0#32
  ![v207.toNat, 0]
def k0_off33 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_203 : BitVec 32 := 16#32
  let v216 : BitVec 32 := Scalar.muli arg13 c16_i32_203
  let c2_i32_204 : BitVec 32 := 2#32
  let v217 : BitVec 32 := Scalar.addi v216 c2_i32_204
  let c0_i32_205 : BitVec 32 := 0#32
  ![v217.toNat, 0]
def k0_off34 (v219 : BitVec 32) : Fin 2 → Nat :=
  let c0_i32_206 : BitVec 32 := 0#32
  ![v219.toNat, 0]

def k0_chk13 (v219 : BitVec 32) : Prop :=
  (∀ a, (k0_off34 v219) a + S1x64.size a ≤ S1000000x64.size a)
instance k0_chk13.dec : ∀ (v219 : BitVec 32), Decidable (k0_chk13 v219) := fun v219 => decidable_of_iff' _ (Iff.of_eq (k0_chk13.eq_1 v219))
theorem k0_off34_inb : ∀ (v219 : BitVec 32) (k0_hw13 : k0_chk13 v219), ∀ a, (k0_off34 v219) a + S1x64.size a ≤ S1000000x64.size a := fun v219 k0_hw13 => k0_hw13

def k0_off35 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_203 : BitVec 32 := 16#32
  let v216 : BitVec 32 := Scalar.muli arg13 c16_i32_203
  let c2_i32_204 : BitVec 32 := 2#32
  let v217 : BitVec 32 := Scalar.addi v216 c2_i32_204
  let c0_i32_207 : BitVec 32 := 0#32
  ![v217.toNat, 0]
def k0_off36 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_203 : BitVec 32 := 16#32
  let v216 : BitVec 32 := Scalar.muli arg13 c16_i32_203
  let c2_i32_204 : BitVec 32 := 2#32
  let v217 : BitVec 32 := Scalar.addi v216 c2_i32_204
  let c5_i32_209 : BitVec 32 := 5#32
  let v230 : BitVec 32 := Scalar.muli v217 c5_i32_209
  let c0_i32_210 : BitVec 32 := 0#32
  let v231 : BitVec 32 := Scalar.addi v230 c0_i32_210
  let c0_i32_211 : BitVec 32 := 0#32
  ![v231.toNat, 0]
def k0_off37 (v229 : BitVec 32) : Fin 2 → Nat :=
  let c0_i32_212 : BitVec 32 := 0#32
  ![v229.toNat, 0]

def k0_chk14 (v229 : BitVec 32) : Prop :=
  (∀ a, (k0_off37 v229) a + S1x64.size a ≤ S1000000x64.size a)
instance k0_chk14.dec : ∀ (v229 : BitVec 32), Decidable (k0_chk14 v229) := fun v229 => decidable_of_iff' _ (Iff.of_eq (k0_chk14.eq_1 v229))
theorem k0_off37_inb : ∀ (v229 : BitVec 32) (k0_hw14 : k0_chk14 v229), ∀ a, (k0_off37 v229) a + S1x64.size a ≤ S1000000x64.size a := fun v229 k0_hw14 => k0_hw14

def k0_off38 (k0_t1 : Fin k0_t1_loop.trips) (c0_i32_210 : BitVec 32) : Fin 2 → Nat :=
  let c0_i32_0 : BitVec 32 := 0#32
  let c1_i32 : BitVec 32 := 1#32
  let arg13 : BitVec 32 := Scf.iv c0_i32_0 c1_i32 k0_t1
  let c16_i32_203 : BitVec 32 := 16#32
  let v216 : BitVec 32 := Scalar.muli arg13 c16_i32_203
  let c2_i32_204 : BitVec 32 := 2#32
  let v217 : BitVec 32 := Scalar.addi v216 c2_i32_204
  let c5_i32_209 : BitVec 32 := 5#32
  let v230 : BitVec 32 := Scalar.muli v217 c5_i32_209
  let v231 : BitVec 32 := Scalar.addi v230 c0_i32_210
  let c0_i32_213 : BitVec 32 := 0#32
  ![v231.toNat, 0]
def k0_off39 (v241 : BitVec 32) : Fin 2 → Nat :=
  let c0_i32_218 : BitVec 32 := 0#32
  ![v241.toNat, 0]

def k0_chk15 (v241 : BitVec 32) : Prop :=
  (∀ a, (k0_off39 v241) a + S1x64.size a ≤ S1000000x64.size a)
instance k0_chk15.dec : ∀ (v241 : BitVec 32), Decidable (k0_chk15 v241) := fun v241 => decidable_of_iff' _ (Iff.of_eq (k0_chk15.eq_1 v241))
theorem k0_off39_inb : ∀ (v241 : BitVec 32) (k0_hw15 : k0_chk15 v241), ∀ a, (k0_off39 v241) a + S1x64.size a ≤ S1000000x64.size a := fun v241 k0_hw15 => k0_hw15

def k0_off40 (k0_t1 : Fin k0_t1_loop.trips) (c1_i32_216 : BitVec 32) : Fin 2 → Nat :=
  let c0_i32_0 : BitVec 32 := 0#32
  let c1_i32 : BitVec 32 := 1#32
  let arg13 : BitVec 32 := Scf.iv c0_i32_0 c1_i32 k0_t1
  let c16_i32_203 : BitVec 32 := 16#32
  let v216 : BitVec 32 := Scalar.muli arg13 c16_i32_203
  let c2_i32_204 : BitVec 32 := 2#32
  let v217 : BitVec 32 := Scalar.addi v216 c2_i32_204
  let c5_i32_215 : BitVec 32 := 5#32
  let v242 : BitVec 32 := Scalar.muli v217 c5_i32_215
  let v243 : BitVec 32 := Scalar.addi v242 c1_i32_216
  let c0_i32_219 : BitVec 32 := 0#32
  ![v243.toNat, 0]
def k0_off41 (v253 : BitVec 32) : Fin 2 → Nat :=
  let c0_i32_224 : BitVec 32 := 0#32
  ![v253.toNat, 0]

def k0_chk16 (v253 : BitVec 32) : Prop :=
  (∀ a, (k0_off41 v253) a + S1x64.size a ≤ S1000000x64.size a)
instance k0_chk16.dec : ∀ (v253 : BitVec 32), Decidable (k0_chk16 v253) := fun v253 => decidable_of_iff' _ (Iff.of_eq (k0_chk16.eq_1 v253))
theorem k0_off41_inb : ∀ (v253 : BitVec 32) (k0_hw16 : k0_chk16 v253), ∀ a, (k0_off41 v253) a + S1x64.size a ≤ S1000000x64.size a := fun v253 k0_hw16 => k0_hw16

def k0_off42 (k0_t1 : Fin k0_t1_loop.trips) (c2_i32_222 : BitVec 32) : Fin 2 → Nat :=
  let c0_i32_0 : BitVec 32 := 0#32
  let c1_i32 : BitVec 32 := 1#32
  let arg13 : BitVec 32 := Scf.iv c0_i32_0 c1_i32 k0_t1
  let c16_i32_203 : BitVec 32 := 16#32
  let v216 : BitVec 32 := Scalar.muli arg13 c16_i32_203
  let c2_i32_204 : BitVec 32 := 2#32
  let v217 : BitVec 32 := Scalar.addi v216 c2_i32_204
  let c5_i32_221 : BitVec 32 := 5#32
  let v254 : BitVec 32 := Scalar.muli v217 c5_i32_221
  let v255 : BitVec 32 := Scalar.addi v254 c2_i32_222
  let c0_i32_225 : BitVec 32 := 0#32
  ![v255.toNat, 0]
def k0_off43 (v265 : BitVec 32) : Fin 2 → Nat :=
  let c0_i32_230 : BitVec 32 := 0#32
  ![v265.toNat, 0]

def k0_chk17 (v265 : BitVec 32) : Prop :=
  (∀ a, (k0_off43 v265) a + S1x64.size a ≤ S1000000x64.size a)
instance k0_chk17.dec : ∀ (v265 : BitVec 32), Decidable (k0_chk17 v265) := fun v265 => decidable_of_iff' _ (Iff.of_eq (k0_chk17.eq_1 v265))
theorem k0_off43_inb : ∀ (v265 : BitVec 32) (k0_hw17 : k0_chk17 v265), ∀ a, (k0_off43 v265) a + S1x64.size a ≤ S1000000x64.size a := fun v265 k0_hw17 => k0_hw17

def k0_off44 (k0_t1 : Fin k0_t1_loop.trips) (c3_i32_228 : BitVec 32) : Fin 2 → Nat :=
  let c0_i32_0 : BitVec 32 := 0#32
  let c1_i32 : BitVec 32 := 1#32
  let arg13 : BitVec 32 := Scf.iv c0_i32_0 c1_i32 k0_t1
  let c16_i32_203 : BitVec 32 := 16#32
  let v216 : BitVec 32 := Scalar.muli arg13 c16_i32_203
  let c2_i32_204 : BitVec 32 := 2#32
  let v217 : BitVec 32 := Scalar.addi v216 c2_i32_204
  let c5_i32_227 : BitVec 32 := 5#32
  let v266 : BitVec 32 := Scalar.muli v217 c5_i32_227
  let v267 : BitVec 32 := Scalar.addi v266 c3_i32_228
  let c0_i32_231 : BitVec 32 := 0#32
  ![v267.toNat, 0]
def k0_off45 (v277 : BitVec 32) : Fin 2 → Nat :=
  let c0_i32_236 : BitVec 32 := 0#32
  ![v277.toNat, 0]

def k0_chk18 (v277 : BitVec 32) : Prop :=
  (∀ a, (k0_off45 v277) a + S1x64.size a ≤ S1000000x64.size a)
instance k0_chk18.dec : ∀ (v277 : BitVec 32), Decidable (k0_chk18 v277) := fun v277 => decidable_of_iff' _ (Iff.of_eq (k0_chk18.eq_1 v277))
theorem k0_off45_inb : ∀ (v277 : BitVec 32) (k0_hw18 : k0_chk18 v277), ∀ a, (k0_off45 v277) a + S1x64.size a ≤ S1000000x64.size a := fun v277 k0_hw18 => k0_hw18

def k0_off46 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_203 : BitVec 32 := 16#32
  let v216 : BitVec 32 := Scalar.muli arg13 c16_i32_203
  let c2_i32_204 : BitVec 32 := 2#32
  let v217 : BitVec 32 := Scalar.addi v216 c2_i32_204
  let c5_i32_233 : BitVec 32 := 5#32
  let v278 : BitVec 32 := Scalar.muli v217 c5_i32_233
  let c4_i32_234 : BitVec 32 := 4#32
  let v279 : BitVec 32 := Scalar.addi v278 c4_i32_234
  let c0_i32_237 : BitVec 32 := 0#32
  ![v279.toNat, 0]
def k0_off47 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_239 : BitVec 32 := 16#32
  let v288 : BitVec 32 := Scalar.muli arg13 c16_i32_239
  let c3_i32_240 : BitVec 32 := 3#32
  let v289 : BitVec 32 := Scalar.addi v288 c3_i32_240
  let c0_i32_241 : BitVec 32 := 0#32
  ![v289.toNat, 0]
def k0_off48 (v291 : BitVec 32) : Fin 2 → Nat :=
  let c0_i32_242 : BitVec 32 := 0#32
  ![v291.toNat, 0]

def k0_chk19 (v291 : BitVec 32) : Prop :=
  (∀ a, (k0_off48 v291) a + S1x64.size a ≤ S1000000x64.size a)
instance k0_chk19.dec : ∀ (v291 : BitVec 32), Decidable (k0_chk19 v291) := fun v291 => decidable_of_iff' _ (Iff.of_eq (k0_chk19.eq_1 v291))
theorem k0_off48_inb : ∀ (v291 : BitVec 32) (k0_hw19 : k0_chk19 v291), ∀ a, (k0_off48 v291) a + S1x64.size a ≤ S1000000x64.size a := fun v291 k0_hw19 => k0_hw19

def k0_off49 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_239 : BitVec 32 := 16#32
  let v288 : BitVec 32 := Scalar.muli arg13 c16_i32_239
  let c3_i32_240 : BitVec 32 := 3#32
  let v289 : BitVec 32 := Scalar.addi v288 c3_i32_240
  let c0_i32_243 : BitVec 32 := 0#32
  ![v289.toNat, 0]
def k0_off50 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_239 : BitVec 32 := 16#32
  let v288 : BitVec 32 := Scalar.muli arg13 c16_i32_239
  let c3_i32_240 : BitVec 32 := 3#32
  let v289 : BitVec 32 := Scalar.addi v288 c3_i32_240
  let c5_i32_245 : BitVec 32 := 5#32
  let v302 : BitVec 32 := Scalar.muli v289 c5_i32_245
  let c0_i32_246 : BitVec 32 := 0#32
  let v303 : BitVec 32 := Scalar.addi v302 c0_i32_246
  let c0_i32_247 : BitVec 32 := 0#32
  ![v303.toNat, 0]
def k0_off51 (v301 : BitVec 32) : Fin 2 → Nat :=
  let c0_i32_248 : BitVec 32 := 0#32
  ![v301.toNat, 0]

def k0_chk20 (v301 : BitVec 32) : Prop :=
  (∀ a, (k0_off51 v301) a + S1x64.size a ≤ S1000000x64.size a)
instance k0_chk20.dec : ∀ (v301 : BitVec 32), Decidable (k0_chk20 v301) := fun v301 => decidable_of_iff' _ (Iff.of_eq (k0_chk20.eq_1 v301))
theorem k0_off51_inb : ∀ (v301 : BitVec 32) (k0_hw20 : k0_chk20 v301), ∀ a, (k0_off51 v301) a + S1x64.size a ≤ S1000000x64.size a := fun v301 k0_hw20 => k0_hw20

def k0_off52 (k0_t1 : Fin k0_t1_loop.trips) (c0_i32_246 : BitVec 32) : Fin 2 → Nat :=
  let c0_i32_0 : BitVec 32 := 0#32
  let c1_i32 : BitVec 32 := 1#32
  let arg13 : BitVec 32 := Scf.iv c0_i32_0 c1_i32 k0_t1
  let c16_i32_239 : BitVec 32 := 16#32
  let v288 : BitVec 32 := Scalar.muli arg13 c16_i32_239
  let c3_i32_240 : BitVec 32 := 3#32
  let v289 : BitVec 32 := Scalar.addi v288 c3_i32_240
  let c5_i32_245 : BitVec 32 := 5#32
  let v302 : BitVec 32 := Scalar.muli v289 c5_i32_245
  let v303 : BitVec 32 := Scalar.addi v302 c0_i32_246
  let c0_i32_249 : BitVec 32 := 0#32
  ![v303.toNat, 0]
def k0_off53 (v313 : BitVec 32) : Fin 2 → Nat :=
  let c0_i32_254 : BitVec 32 := 0#32
  ![v313.toNat, 0]

def k0_chk21 (v313 : BitVec 32) : Prop :=
  (∀ a, (k0_off53 v313) a + S1x64.size a ≤ S1000000x64.size a)
instance k0_chk21.dec : ∀ (v313 : BitVec 32), Decidable (k0_chk21 v313) := fun v313 => decidable_of_iff' _ (Iff.of_eq (k0_chk21.eq_1 v313))
theorem k0_off53_inb : ∀ (v313 : BitVec 32) (k0_hw21 : k0_chk21 v313), ∀ a, (k0_off53 v313) a + S1x64.size a ≤ S1000000x64.size a := fun v313 k0_hw21 => k0_hw21

def k0_off54 (k0_t1 : Fin k0_t1_loop.trips) (c1_i32_252 : BitVec 32) : Fin 2 → Nat :=
  let c0_i32_0 : BitVec 32 := 0#32
  let c1_i32 : BitVec 32 := 1#32
  let arg13 : BitVec 32 := Scf.iv c0_i32_0 c1_i32 k0_t1
  let c16_i32_239 : BitVec 32 := 16#32
  let v288 : BitVec 32 := Scalar.muli arg13 c16_i32_239
  let c3_i32_240 : BitVec 32 := 3#32
  let v289 : BitVec 32 := Scalar.addi v288 c3_i32_240
  let c5_i32_251 : BitVec 32 := 5#32
  let v314 : BitVec 32 := Scalar.muli v289 c5_i32_251
  let v315 : BitVec 32 := Scalar.addi v314 c1_i32_252
  let c0_i32_255 : BitVec 32 := 0#32
  ![v315.toNat, 0]
def k0_off55 (v325 : BitVec 32) : Fin 2 → Nat :=
  let c0_i32_260 : BitVec 32 := 0#32
  ![v325.toNat, 0]

def k0_chk22 (v325 : BitVec 32) : Prop :=
  (∀ a, (k0_off55 v325) a + S1x64.size a ≤ S1000000x64.size a)
instance k0_chk22.dec : ∀ (v325 : BitVec 32), Decidable (k0_chk22 v325) := fun v325 => decidable_of_iff' _ (Iff.of_eq (k0_chk22.eq_1 v325))
theorem k0_off55_inb : ∀ (v325 : BitVec 32) (k0_hw22 : k0_chk22 v325), ∀ a, (k0_off55 v325) a + S1x64.size a ≤ S1000000x64.size a := fun v325 k0_hw22 => k0_hw22

def k0_off56 (k0_t1 : Fin k0_t1_loop.trips) (c2_i32_258 : BitVec 32) : Fin 2 → Nat :=
  let c0_i32_0 : BitVec 32 := 0#32
  let c1_i32 : BitVec 32 := 1#32
  let arg13 : BitVec 32 := Scf.iv c0_i32_0 c1_i32 k0_t1
  let c16_i32_239 : BitVec 32 := 16#32
  let v288 : BitVec 32 := Scalar.muli arg13 c16_i32_239
  let c3_i32_240 : BitVec 32 := 3#32
  let v289 : BitVec 32 := Scalar.addi v288 c3_i32_240
  let c5_i32_257 : BitVec 32 := 5#32
  let v326 : BitVec 32 := Scalar.muli v289 c5_i32_257
  let v327 : BitVec 32 := Scalar.addi v326 c2_i32_258
  let c0_i32_261 : BitVec 32 := 0#32
  ![v327.toNat, 0]
def k0_off57 (v337 : BitVec 32) : Fin 2 → Nat :=
  let c0_i32_266 : BitVec 32 := 0#32
  ![v337.toNat, 0]

def k0_chk23 (v337 : BitVec 32) : Prop :=
  (∀ a, (k0_off57 v337) a + S1x64.size a ≤ S1000000x64.size a)
instance k0_chk23.dec : ∀ (v337 : BitVec 32), Decidable (k0_chk23 v337) := fun v337 => decidable_of_iff' _ (Iff.of_eq (k0_chk23.eq_1 v337))
theorem k0_off57_inb : ∀ (v337 : BitVec 32) (k0_hw23 : k0_chk23 v337), ∀ a, (k0_off57 v337) a + S1x64.size a ≤ S1000000x64.size a := fun v337 k0_hw23 => k0_hw23

def k0_off58 (k0_t1 : Fin k0_t1_loop.trips) (c3_i32_264 : BitVec 32) : Fin 2 → Nat :=
  let c0_i32_0 : BitVec 32 := 0#32
  let c1_i32 : BitVec 32 := 1#32
  let arg13 : BitVec 32 := Scf.iv c0_i32_0 c1_i32 k0_t1
  let c16_i32_239 : BitVec 32 := 16#32
  let v288 : BitVec 32 := Scalar.muli arg13 c16_i32_239
  let c3_i32_240 : BitVec 32 := 3#32
  let v289 : BitVec 32 := Scalar.addi v288 c3_i32_240
  let c5_i32_263 : BitVec 32 := 5#32
  let v338 : BitVec 32 := Scalar.muli v289 c5_i32_263
  let v339 : BitVec 32 := Scalar.addi v338 c3_i32_264
  let c0_i32_267 : BitVec 32 := 0#32
  ![v339.toNat, 0]
def k0_off59 (v349 : BitVec 32) : Fin 2 → Nat :=
  let c0_i32_272 : BitVec 32 := 0#32
  ![v349.toNat, 0]

def k0_chk24 (v349 : BitVec 32) : Prop :=
  (∀ a, (k0_off59 v349) a + S1x64.size a ≤ S1000000x64.size a)
instance k0_chk24.dec : ∀ (v349 : BitVec 32), Decidable (k0_chk24 v349) := fun v349 => decidable_of_iff' _ (Iff.of_eq (k0_chk24.eq_1 v349))
theorem k0_off59_inb : ∀ (v349 : BitVec 32) (k0_hw24 : k0_chk24 v349), ∀ a, (k0_off59 v349) a + S1x64.size a ≤ S1000000x64.size a := fun v349 k0_hw24 => k0_hw24

def k0_off60 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_239 : BitVec 32 := 16#32
  let v288 : BitVec 32 := Scalar.muli arg13 c16_i32_239
  let c3_i32_240 : BitVec 32 := 3#32
  let v289 : BitVec 32 := Scalar.addi v288 c3_i32_240
  let c5_i32_269 : BitVec 32 := 5#32
  let v350 : BitVec 32 := Scalar.muli v289 c5_i32_269
  let c4_i32_270 : BitVec 32 := 4#32
  let v351 : BitVec 32 := Scalar.addi v350 c4_i32_270
  let c0_i32_273 : BitVec 32 := 0#32
  ![v351.toNat, 0]
def k0_off61 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_275 : BitVec 32 := 16#32
  let v360 : BitVec 32 := Scalar.muli arg13 c16_i32_275
  let c4_i32_276 : BitVec 32 := 4#32
  let v361 : BitVec 32 := Scalar.addi v360 c4_i32_276
  let c0_i32_277 : BitVec 32 := 0#32
  ![v361.toNat, 0]
def k0_off62 (v363 : BitVec 32) : Fin 2 → Nat :=
  let c0_i32_278 : BitVec 32 := 0#32
  ![v363.toNat, 0]

def k0_chk25 (v363 : BitVec 32) : Prop :=
  (∀ a, (k0_off62 v363) a + S1x64.size a ≤ S1000000x64.size a)
instance k0_chk25.dec : ∀ (v363 : BitVec 32), Decidable (k0_chk25 v363) := fun v363 => decidable_of_iff' _ (Iff.of_eq (k0_chk25.eq_1 v363))
theorem k0_off62_inb : ∀ (v363 : BitVec 32) (k0_hw25 : k0_chk25 v363), ∀ a, (k0_off62 v363) a + S1x64.size a ≤ S1000000x64.size a := fun v363 k0_hw25 => k0_hw25

def k0_off63 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_275 : BitVec 32 := 16#32
  let v360 : BitVec 32 := Scalar.muli arg13 c16_i32_275
  let c4_i32_276 : BitVec 32 := 4#32
  let v361 : BitVec 32 := Scalar.addi v360 c4_i32_276
  let c0_i32_279 : BitVec 32 := 0#32
  ![v361.toNat, 0]
def k0_off64 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_275 : BitVec 32 := 16#32
  let v360 : BitVec 32 := Scalar.muli arg13 c16_i32_275
  let c4_i32_276 : BitVec 32 := 4#32
  let v361 : BitVec 32 := Scalar.addi v360 c4_i32_276
  let c5_i32_281 : BitVec 32 := 5#32
  let v374 : BitVec 32 := Scalar.muli v361 c5_i32_281
  let c0_i32_282 : BitVec 32 := 0#32
  let v375 : BitVec 32 := Scalar.addi v374 c0_i32_282
  let c0_i32_283 : BitVec 32 := 0#32
  ![v375.toNat, 0]
def k0_off65 (v373 : BitVec 32) : Fin 2 → Nat :=
  let c0_i32_284 : BitVec 32 := 0#32
  ![v373.toNat, 0]

def k0_chk26 (v373 : BitVec 32) : Prop :=
  (∀ a, (k0_off65 v373) a + S1x64.size a ≤ S1000000x64.size a)
instance k0_chk26.dec : ∀ (v373 : BitVec 32), Decidable (k0_chk26 v373) := fun v373 => decidable_of_iff' _ (Iff.of_eq (k0_chk26.eq_1 v373))
theorem k0_off65_inb : ∀ (v373 : BitVec 32) (k0_hw26 : k0_chk26 v373), ∀ a, (k0_off65 v373) a + S1x64.size a ≤ S1000000x64.size a := fun v373 k0_hw26 => k0_hw26

def k0_off66 (k0_t1 : Fin k0_t1_loop.trips) (c0_i32_282 : BitVec 32) : Fin 2 → Nat :=
  let c0_i32_0 : BitVec 32 := 0#32
  let c1_i32 : BitVec 32 := 1#32
  let arg13 : BitVec 32 := Scf.iv c0_i32_0 c1_i32 k0_t1
  let c16_i32_275 : BitVec 32 := 16#32
  let v360 : BitVec 32 := Scalar.muli arg13 c16_i32_275
  let c4_i32_276 : BitVec 32 := 4#32
  let v361 : BitVec 32 := Scalar.addi v360 c4_i32_276
  let c5_i32_281 : BitVec 32 := 5#32
  let v374 : BitVec 32 := Scalar.muli v361 c5_i32_281
  let v375 : BitVec 32 := Scalar.addi v374 c0_i32_282
  let c0_i32_285 : BitVec 32 := 0#32
  ![v375.toNat, 0]
def k0_off67 (v385 : BitVec 32) : Fin 2 → Nat :=
  let c0_i32_290 : BitVec 32 := 0#32
  ![v385.toNat, 0]

def k0_chk27 (v385 : BitVec 32) : Prop :=
  (∀ a, (k0_off67 v385) a + S1x64.size a ≤ S1000000x64.size a)
instance k0_chk27.dec : ∀ (v385 : BitVec 32), Decidable (k0_chk27 v385) := fun v385 => decidable_of_iff' _ (Iff.of_eq (k0_chk27.eq_1 v385))
theorem k0_off67_inb : ∀ (v385 : BitVec 32) (k0_hw27 : k0_chk27 v385), ∀ a, (k0_off67 v385) a + S1x64.size a ≤ S1000000x64.size a := fun v385 k0_hw27 => k0_hw27

def k0_off68 (k0_t1 : Fin k0_t1_loop.trips) (c1_i32_288 : BitVec 32) : Fin 2 → Nat :=
  let c0_i32_0 : BitVec 32 := 0#32
  let c1_i32 : BitVec 32 := 1#32
  let arg13 : BitVec 32 := Scf.iv c0_i32_0 c1_i32 k0_t1
  let c16_i32_275 : BitVec 32 := 16#32
  let v360 : BitVec 32 := Scalar.muli arg13 c16_i32_275
  let c4_i32_276 : BitVec 32 := 4#32
  let v361 : BitVec 32 := Scalar.addi v360 c4_i32_276
  let c5_i32_287 : BitVec 32 := 5#32
  let v386 : BitVec 32 := Scalar.muli v361 c5_i32_287
  let v387 : BitVec 32 := Scalar.addi v386 c1_i32_288
  let c0_i32_291 : BitVec 32 := 0#32
  ![v387.toNat, 0]
def k0_off69 (v397 : BitVec 32) : Fin 2 → Nat :=
  let c0_i32_296 : BitVec 32 := 0#32
  ![v397.toNat, 0]

def k0_chk28 (v397 : BitVec 32) : Prop :=
  (∀ a, (k0_off69 v397) a + S1x64.size a ≤ S1000000x64.size a)
instance k0_chk28.dec : ∀ (v397 : BitVec 32), Decidable (k0_chk28 v397) := fun v397 => decidable_of_iff' _ (Iff.of_eq (k0_chk28.eq_1 v397))
theorem k0_off69_inb : ∀ (v397 : BitVec 32) (k0_hw28 : k0_chk28 v397), ∀ a, (k0_off69 v397) a + S1x64.size a ≤ S1000000x64.size a := fun v397 k0_hw28 => k0_hw28

def k0_off70 (k0_t1 : Fin k0_t1_loop.trips) (c2_i32_294 : BitVec 32) : Fin 2 → Nat :=
  let c0_i32_0 : BitVec 32 := 0#32
  let c1_i32 : BitVec 32 := 1#32
  let arg13 : BitVec 32 := Scf.iv c0_i32_0 c1_i32 k0_t1
  let c16_i32_275 : BitVec 32 := 16#32
  let v360 : BitVec 32 := Scalar.muli arg13 c16_i32_275
  let c4_i32_276 : BitVec 32 := 4#32
  let v361 : BitVec 32 := Scalar.addi v360 c4_i32_276
  let c5_i32_293 : BitVec 32 := 5#32
  let v398 : BitVec 32 := Scalar.muli v361 c5_i32_293
  let v399 : BitVec 32 := Scalar.addi v398 c2_i32_294
  let c0_i32_297 : BitVec 32 := 0#32
  ![v399.toNat, 0]
def k0_off71 (v409 : BitVec 32) : Fin 2 → Nat :=
  let c0_i32_302 : BitVec 32 := 0#32
  ![v409.toNat, 0]

def k0_chk29 (v409 : BitVec 32) : Prop :=
  (∀ a, (k0_off71 v409) a + S1x64.size a ≤ S1000000x64.size a)
instance k0_chk29.dec : ∀ (v409 : BitVec 32), Decidable (k0_chk29 v409) := fun v409 => decidable_of_iff' _ (Iff.of_eq (k0_chk29.eq_1 v409))
theorem k0_off71_inb : ∀ (v409 : BitVec 32) (k0_hw29 : k0_chk29 v409), ∀ a, (k0_off71 v409) a + S1x64.size a ≤ S1000000x64.size a := fun v409 k0_hw29 => k0_hw29

def k0_off72 (k0_t1 : Fin k0_t1_loop.trips) (c3_i32_300 : BitVec 32) : Fin 2 → Nat :=
  let c0_i32_0 : BitVec 32 := 0#32
  let c1_i32 : BitVec 32 := 1#32
  let arg13 : BitVec 32 := Scf.iv c0_i32_0 c1_i32 k0_t1
  let c16_i32_275 : BitVec 32 := 16#32
  let v360 : BitVec 32 := Scalar.muli arg13 c16_i32_275
  let c4_i32_276 : BitVec 32 := 4#32
  let v361 : BitVec 32 := Scalar.addi v360 c4_i32_276
  let c5_i32_299 : BitVec 32 := 5#32
  let v410 : BitVec 32 := Scalar.muli v361 c5_i32_299
  let v411 : BitVec 32 := Scalar.addi v410 c3_i32_300
  let c0_i32_303 : BitVec 32 := 0#32
  ![v411.toNat, 0]
def k0_off73 (v421 : BitVec 32) : Fin 2 → Nat :=
  let c0_i32_308 : BitVec 32 := 0#32
  ![v421.toNat, 0]

def k0_chk30 (v421 : BitVec 32) : Prop :=
  (∀ a, (k0_off73 v421) a + S1x64.size a ≤ S1000000x64.size a)
instance k0_chk30.dec : ∀ (v421 : BitVec 32), Decidable (k0_chk30 v421) := fun v421 => decidable_of_iff' _ (Iff.of_eq (k0_chk30.eq_1 v421))
theorem k0_off73_inb : ∀ (v421 : BitVec 32) (k0_hw30 : k0_chk30 v421), ∀ a, (k0_off73 v421) a + S1x64.size a ≤ S1000000x64.size a := fun v421 k0_hw30 => k0_hw30

def k0_off74 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_275 : BitVec 32 := 16#32
  let v360 : BitVec 32 := Scalar.muli arg13 c16_i32_275
  let c4_i32_276 : BitVec 32 := 4#32
  let v361 : BitVec 32 := Scalar.addi v360 c4_i32_276
  let c5_i32_305 : BitVec 32 := 5#32
  let v422 : BitVec 32 := Scalar.muli v361 c5_i32_305
  let c4_i32_306 : BitVec 32 := 4#32
  let v423 : BitVec 32 := Scalar.addi v422 c4_i32_306
  let c0_i32_309 : BitVec 32 := 0#32
  ![v423.toNat, 0]
def k0_off75 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_311 : BitVec 32 := 16#32
  let v432 : BitVec 32 := Scalar.muli arg13 c16_i32_311
  let c5_i32_312 : BitVec 32 := 5#32
  let v433 : BitVec 32 := Scalar.addi v432 c5_i32_312
  let c0_i32_313 : BitVec 32 := 0#32
  ![v433.toNat, 0]
def k0_off76 (v435 : BitVec 32) : Fin 2 → Nat :=
  let c0_i32_314 : BitVec 32 := 0#32
  ![v435.toNat, 0]

def k0_chk31 (v435 : BitVec 32) : Prop :=
  (∀ a, (k0_off76 v435) a + S1x64.size a ≤ S1000000x64.size a)
instance k0_chk31.dec : ∀ (v435 : BitVec 32), Decidable (k0_chk31 v435) := fun v435 => decidable_of_iff' _ (Iff.of_eq (k0_chk31.eq_1 v435))
theorem k0_off76_inb : ∀ (v435 : BitVec 32) (k0_hw31 : k0_chk31 v435), ∀ a, (k0_off76 v435) a + S1x64.size a ≤ S1000000x64.size a := fun v435 k0_hw31 => k0_hw31

def k0_off77 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_311 : BitVec 32 := 16#32
  let v432 : BitVec 32 := Scalar.muli arg13 c16_i32_311
  let c5_i32_312 : BitVec 32 := 5#32
  let v433 : BitVec 32 := Scalar.addi v432 c5_i32_312
  let c0_i32_315 : BitVec 32 := 0#32
  ![v433.toNat, 0]
def k0_off78 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_311 : BitVec 32 := 16#32
  let v432 : BitVec 32 := Scalar.muli arg13 c16_i32_311
  let c5_i32_312 : BitVec 32 := 5#32
  let v433 : BitVec 32 := Scalar.addi v432 c5_i32_312
  let c5_i32_317 : BitVec 32 := 5#32
  let v446 : BitVec 32 := Scalar.muli v433 c5_i32_317
  let c0_i32_318 : BitVec 32 := 0#32
  let v447 : BitVec 32 := Scalar.addi v446 c0_i32_318
  let c0_i32_319 : BitVec 32 := 0#32
  ![v447.toNat, 0]
def k0_off79 (v445 : BitVec 32) : Fin 2 → Nat :=
  let c0_i32_320 : BitVec 32 := 0#32
  ![v445.toNat, 0]

def k0_chk32 (v445 : BitVec 32) : Prop :=
  (∀ a, (k0_off79 v445) a + S1x64.size a ≤ S1000000x64.size a)
instance k0_chk32.dec : ∀ (v445 : BitVec 32), Decidable (k0_chk32 v445) := fun v445 => decidable_of_iff' _ (Iff.of_eq (k0_chk32.eq_1 v445))
theorem k0_off79_inb : ∀ (v445 : BitVec 32) (k0_hw32 : k0_chk32 v445), ∀ a, (k0_off79 v445) a + S1x64.size a ≤ S1000000x64.size a := fun v445 k0_hw32 => k0_hw32

def k0_off80 (k0_t1 : Fin k0_t1_loop.trips) (c0_i32_318 : BitVec 32) : Fin 2 → Nat :=
  let c0_i32_0 : BitVec 32 := 0#32
  let c1_i32 : BitVec 32 := 1#32
  let arg13 : BitVec 32 := Scf.iv c0_i32_0 c1_i32 k0_t1
  let c16_i32_311 : BitVec 32 := 16#32
  let v432 : BitVec 32 := Scalar.muli arg13 c16_i32_311
  let c5_i32_312 : BitVec 32 := 5#32
  let v433 : BitVec 32 := Scalar.addi v432 c5_i32_312
  let c5_i32_317 : BitVec 32 := 5#32
  let v446 : BitVec 32 := Scalar.muli v433 c5_i32_317
  let v447 : BitVec 32 := Scalar.addi v446 c0_i32_318
  let c0_i32_321 : BitVec 32 := 0#32
  ![v447.toNat, 0]
def k0_off81 (v457 : BitVec 32) : Fin 2 → Nat :=
  let c0_i32_326 : BitVec 32 := 0#32
  ![v457.toNat, 0]

def k0_chk33 (v457 : BitVec 32) : Prop :=
  (∀ a, (k0_off81 v457) a + S1x64.size a ≤ S1000000x64.size a)
instance k0_chk33.dec : ∀ (v457 : BitVec 32), Decidable (k0_chk33 v457) := fun v457 => decidable_of_iff' _ (Iff.of_eq (k0_chk33.eq_1 v457))
theorem k0_off81_inb : ∀ (v457 : BitVec 32) (k0_hw33 : k0_chk33 v457), ∀ a, (k0_off81 v457) a + S1x64.size a ≤ S1000000x64.size a := fun v457 k0_hw33 => k0_hw33

def k0_off82 (k0_t1 : Fin k0_t1_loop.trips) (c1_i32_324 : BitVec 32) : Fin 2 → Nat :=
  let c0_i32_0 : BitVec 32 := 0#32
  let c1_i32 : BitVec 32 := 1#32
  let arg13 : BitVec 32 := Scf.iv c0_i32_0 c1_i32 k0_t1
  let c16_i32_311 : BitVec 32 := 16#32
  let v432 : BitVec 32 := Scalar.muli arg13 c16_i32_311
  let c5_i32_312 : BitVec 32 := 5#32
  let v433 : BitVec 32 := Scalar.addi v432 c5_i32_312
  let c5_i32_323 : BitVec 32 := 5#32
  let v458 : BitVec 32 := Scalar.muli v433 c5_i32_323
  let v459 : BitVec 32 := Scalar.addi v458 c1_i32_324
  let c0_i32_327 : BitVec 32 := 0#32
  ![v459.toNat, 0]
def k0_off83 (v469 : BitVec 32) : Fin 2 → Nat :=
  let c0_i32_332 : BitVec 32 := 0#32
  ![v469.toNat, 0]

def k0_chk34 (v469 : BitVec 32) : Prop :=
  (∀ a, (k0_off83 v469) a + S1x64.size a ≤ S1000000x64.size a)
instance k0_chk34.dec : ∀ (v469 : BitVec 32), Decidable (k0_chk34 v469) := fun v469 => decidable_of_iff' _ (Iff.of_eq (k0_chk34.eq_1 v469))
theorem k0_off83_inb : ∀ (v469 : BitVec 32) (k0_hw34 : k0_chk34 v469), ∀ a, (k0_off83 v469) a + S1x64.size a ≤ S1000000x64.size a := fun v469 k0_hw34 => k0_hw34

def k0_off84 (k0_t1 : Fin k0_t1_loop.trips) (c2_i32_330 : BitVec 32) : Fin 2 → Nat :=
  let c0_i32_0 : BitVec 32 := 0#32
  let c1_i32 : BitVec 32 := 1#32
  let arg13 : BitVec 32 := Scf.iv c0_i32_0 c1_i32 k0_t1
  let c16_i32_311 : BitVec 32 := 16#32
  let v432 : BitVec 32 := Scalar.muli arg13 c16_i32_311
  let c5_i32_312 : BitVec 32 := 5#32
  let v433 : BitVec 32 := Scalar.addi v432 c5_i32_312
  let c5_i32_329 : BitVec 32 := 5#32
  let v470 : BitVec 32 := Scalar.muli v433 c5_i32_329
  let v471 : BitVec 32 := Scalar.addi v470 c2_i32_330
  let c0_i32_333 : BitVec 32 := 0#32
  ![v471.toNat, 0]
def k0_off85 (v481 : BitVec 32) : Fin 2 → Nat :=
  let c0_i32_338 : BitVec 32 := 0#32
  ![v481.toNat, 0]

def k0_chk35 (v481 : BitVec 32) : Prop :=
  (∀ a, (k0_off85 v481) a + S1x64.size a ≤ S1000000x64.size a)
instance k0_chk35.dec : ∀ (v481 : BitVec 32), Decidable (k0_chk35 v481) := fun v481 => decidable_of_iff' _ (Iff.of_eq (k0_chk35.eq_1 v481))
theorem k0_off85_inb : ∀ (v481 : BitVec 32) (k0_hw35 : k0_chk35 v481), ∀ a, (k0_off85 v481) a + S1x64.size a ≤ S1000000x64.size a := fun v481 k0_hw35 => k0_hw35

def k0_off86 (k0_t1 : Fin k0_t1_loop.trips) (c3_i32_336 : BitVec 32) : Fin 2 → Nat :=
  let c0_i32_0 : BitVec 32 := 0#32
  let c1_i32 : BitVec 32 := 1#32
  let arg13 : BitVec 32 := Scf.iv c0_i32_0 c1_i32 k0_t1
  let c16_i32_311 : BitVec 32 := 16#32
  let v432 : BitVec 32 := Scalar.muli arg13 c16_i32_311
  let c5_i32_312 : BitVec 32 := 5#32
  let v433 : BitVec 32 := Scalar.addi v432 c5_i32_312
  let c5_i32_335 : BitVec 32 := 5#32
  let v482 : BitVec 32 := Scalar.muli v433 c5_i32_335
  let v483 : BitVec 32 := Scalar.addi v482 c3_i32_336
  let c0_i32_339 : BitVec 32 := 0#32
  ![v483.toNat, 0]
def k0_off87 (v493 : BitVec 32) : Fin 2 → Nat :=
  let c0_i32_344 : BitVec 32 := 0#32
  ![v493.toNat, 0]

def k0_chk36 (v493 : BitVec 32) : Prop :=
  (∀ a, (k0_off87 v493) a + S1x64.size a ≤ S1000000x64.size a)
instance k0_chk36.dec : ∀ (v493 : BitVec 32), Decidable (k0_chk36 v493) := fun v493 => decidable_of_iff' _ (Iff.of_eq (k0_chk36.eq_1 v493))
theorem k0_off87_inb : ∀ (v493 : BitVec 32) (k0_hw36 : k0_chk36 v493), ∀ a, (k0_off87 v493) a + S1x64.size a ≤ S1000000x64.size a := fun v493 k0_hw36 => k0_hw36

def k0_off88 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_311 : BitVec 32 := 16#32
  let v432 : BitVec 32 := Scalar.muli arg13 c16_i32_311
  let c5_i32_312 : BitVec 32 := 5#32
  let v433 : BitVec 32 := Scalar.addi v432 c5_i32_312
  let c5_i32_341 : BitVec 32 := 5#32
  let v494 : BitVec 32 := Scalar.muli v433 c5_i32_341
  let c4_i32_342 : BitVec 32 := 4#32
  let v495 : BitVec 32 := Scalar.addi v494 c4_i32_342
  let c0_i32_345 : BitVec 32 := 0#32
  ![v495.toNat, 0]
def k0_off89 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_347 : BitVec 32 := 16#32
  let v504 : BitVec 32 := Scalar.muli arg13 c16_i32_347
  let c6_i32 : BitVec 32 := 6#32
  let v505 : BitVec 32 := Scalar.addi v504 c6_i32
  let c0_i32_348 : BitVec 32 := 0#32
  ![v505.toNat, 0]
def k0_off90 (v507 : BitVec 32) : Fin 2 → Nat :=
  let c0_i32_349 : BitVec 32 := 0#32
  ![v507.toNat, 0]

def k0_chk37 (v507 : BitVec 32) : Prop :=
  (∀ a, (k0_off90 v507) a + S1x64.size a ≤ S1000000x64.size a)
instance k0_chk37.dec : ∀ (v507 : BitVec 32), Decidable (k0_chk37 v507) := fun v507 => decidable_of_iff' _ (Iff.of_eq (k0_chk37.eq_1 v507))
theorem k0_off90_inb : ∀ (v507 : BitVec 32) (k0_hw37 : k0_chk37 v507), ∀ a, (k0_off90 v507) a + S1x64.size a ≤ S1000000x64.size a := fun v507 k0_hw37 => k0_hw37

def k0_off91 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_347 : BitVec 32 := 16#32
  let v504 : BitVec 32 := Scalar.muli arg13 c16_i32_347
  let c6_i32 : BitVec 32 := 6#32
  let v505 : BitVec 32 := Scalar.addi v504 c6_i32
  let c0_i32_350 : BitVec 32 := 0#32
  ![v505.toNat, 0]
def k0_off92 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_347 : BitVec 32 := 16#32
  let v504 : BitVec 32 := Scalar.muli arg13 c16_i32_347
  let c6_i32 : BitVec 32 := 6#32
  let v505 : BitVec 32 := Scalar.addi v504 c6_i32
  let c5_i32_352 : BitVec 32 := 5#32
  let v518 : BitVec 32 := Scalar.muli v505 c5_i32_352
  let c0_i32_353 : BitVec 32 := 0#32
  let v519 : BitVec 32 := Scalar.addi v518 c0_i32_353
  let c0_i32_354 : BitVec 32 := 0#32
  ![v519.toNat, 0]
def k0_off93 (v517 : BitVec 32) : Fin 2 → Nat :=
  let c0_i32_355 : BitVec 32 := 0#32
  ![v517.toNat, 0]

def k0_chk38 (v517 : BitVec 32) : Prop :=
  (∀ a, (k0_off93 v517) a + S1x64.size a ≤ S1000000x64.size a)
instance k0_chk38.dec : ∀ (v517 : BitVec 32), Decidable (k0_chk38 v517) := fun v517 => decidable_of_iff' _ (Iff.of_eq (k0_chk38.eq_1 v517))
theorem k0_off93_inb : ∀ (v517 : BitVec 32) (k0_hw38 : k0_chk38 v517), ∀ a, (k0_off93 v517) a + S1x64.size a ≤ S1000000x64.size a := fun v517 k0_hw38 => k0_hw38

def k0_off94 (k0_t1 : Fin k0_t1_loop.trips) (c0_i32_353 : BitVec 32) : Fin 2 → Nat :=
  let c0_i32_0 : BitVec 32 := 0#32
  let c1_i32 : BitVec 32 := 1#32
  let arg13 : BitVec 32 := Scf.iv c0_i32_0 c1_i32 k0_t1
  let c16_i32_347 : BitVec 32 := 16#32
  let v504 : BitVec 32 := Scalar.muli arg13 c16_i32_347
  let c6_i32 : BitVec 32 := 6#32
  let v505 : BitVec 32 := Scalar.addi v504 c6_i32
  let c5_i32_352 : BitVec 32 := 5#32
  let v518 : BitVec 32 := Scalar.muli v505 c5_i32_352
  let v519 : BitVec 32 := Scalar.addi v518 c0_i32_353
  let c0_i32_356 : BitVec 32 := 0#32
  ![v519.toNat, 0]
def k0_off95 (v529 : BitVec 32) : Fin 2 → Nat :=
  let c0_i32_361 : BitVec 32 := 0#32
  ![v529.toNat, 0]

def k0_chk39 (v529 : BitVec 32) : Prop :=
  (∀ a, (k0_off95 v529) a + S1x64.size a ≤ S1000000x64.size a)
instance k0_chk39.dec : ∀ (v529 : BitVec 32), Decidable (k0_chk39 v529) := fun v529 => decidable_of_iff' _ (Iff.of_eq (k0_chk39.eq_1 v529))
theorem k0_off95_inb : ∀ (v529 : BitVec 32) (k0_hw39 : k0_chk39 v529), ∀ a, (k0_off95 v529) a + S1x64.size a ≤ S1000000x64.size a := fun v529 k0_hw39 => k0_hw39

def k0_off96 (k0_t1 : Fin k0_t1_loop.trips) (c1_i32_359 : BitVec 32) : Fin 2 → Nat :=
  let c0_i32_0 : BitVec 32 := 0#32
  let c1_i32 : BitVec 32 := 1#32
  let arg13 : BitVec 32 := Scf.iv c0_i32_0 c1_i32 k0_t1
  let c16_i32_347 : BitVec 32 := 16#32
  let v504 : BitVec 32 := Scalar.muli arg13 c16_i32_347
  let c6_i32 : BitVec 32 := 6#32
  let v505 : BitVec 32 := Scalar.addi v504 c6_i32
  let c5_i32_358 : BitVec 32 := 5#32
  let v530 : BitVec 32 := Scalar.muli v505 c5_i32_358
  let v531 : BitVec 32 := Scalar.addi v530 c1_i32_359
  let c0_i32_362 : BitVec 32 := 0#32
  ![v531.toNat, 0]
def k0_off97 (v541 : BitVec 32) : Fin 2 → Nat :=
  let c0_i32_367 : BitVec 32 := 0#32
  ![v541.toNat, 0]

def k0_chk40 (v541 : BitVec 32) : Prop :=
  (∀ a, (k0_off97 v541) a + S1x64.size a ≤ S1000000x64.size a)
instance k0_chk40.dec : ∀ (v541 : BitVec 32), Decidable (k0_chk40 v541) := fun v541 => decidable_of_iff' _ (Iff.of_eq (k0_chk40.eq_1 v541))
theorem k0_off97_inb : ∀ (v541 : BitVec 32) (k0_hw40 : k0_chk40 v541), ∀ a, (k0_off97 v541) a + S1x64.size a ≤ S1000000x64.size a := fun v541 k0_hw40 => k0_hw40

def k0_off98 (k0_t1 : Fin k0_t1_loop.trips) (c2_i32_365 : BitVec 32) : Fin 2 → Nat :=
  let c0_i32_0 : BitVec 32 := 0#32
  let c1_i32 : BitVec 32 := 1#32
  let arg13 : BitVec 32 := Scf.iv c0_i32_0 c1_i32 k0_t1
  let c16_i32_347 : BitVec 32 := 16#32
  let v504 : BitVec 32 := Scalar.muli arg13 c16_i32_347
  let c6_i32 : BitVec 32 := 6#32
  let v505 : BitVec 32 := Scalar.addi v504 c6_i32
  let c5_i32_364 : BitVec 32 := 5#32
  let v542 : BitVec 32 := Scalar.muli v505 c5_i32_364
  let v543 : BitVec 32 := Scalar.addi v542 c2_i32_365
  let c0_i32_368 : BitVec 32 := 0#32
  ![v543.toNat, 0]
def k0_off99 (v553 : BitVec 32) : Fin 2 → Nat :=
  let c0_i32_373 : BitVec 32 := 0#32
  ![v553.toNat, 0]

def k0_chk41 (v553 : BitVec 32) : Prop :=
  (∀ a, (k0_off99 v553) a + S1x64.size a ≤ S1000000x64.size a)
instance k0_chk41.dec : ∀ (v553 : BitVec 32), Decidable (k0_chk41 v553) := fun v553 => decidable_of_iff' _ (Iff.of_eq (k0_chk41.eq_1 v553))
theorem k0_off99_inb : ∀ (v553 : BitVec 32) (k0_hw41 : k0_chk41 v553), ∀ a, (k0_off99 v553) a + S1x64.size a ≤ S1000000x64.size a := fun v553 k0_hw41 => k0_hw41

def k0_off100 (k0_t1 : Fin k0_t1_loop.trips) (c3_i32_371 : BitVec 32) : Fin 2 → Nat :=
  let c0_i32_0 : BitVec 32 := 0#32
  let c1_i32 : BitVec 32 := 1#32
  let arg13 : BitVec 32 := Scf.iv c0_i32_0 c1_i32 k0_t1
  let c16_i32_347 : BitVec 32 := 16#32
  let v504 : BitVec 32 := Scalar.muli arg13 c16_i32_347
  let c6_i32 : BitVec 32 := 6#32
  let v505 : BitVec 32 := Scalar.addi v504 c6_i32
  let c5_i32_370 : BitVec 32 := 5#32
  let v554 : BitVec 32 := Scalar.muli v505 c5_i32_370
  let v555 : BitVec 32 := Scalar.addi v554 c3_i32_371
  let c0_i32_374 : BitVec 32 := 0#32
  ![v555.toNat, 0]
def k0_off101 (v565 : BitVec 32) : Fin 2 → Nat :=
  let c0_i32_379 : BitVec 32 := 0#32
  ![v565.toNat, 0]

def k0_chk42 (v565 : BitVec 32) : Prop :=
  (∀ a, (k0_off101 v565) a + S1x64.size a ≤ S1000000x64.size a)
instance k0_chk42.dec : ∀ (v565 : BitVec 32), Decidable (k0_chk42 v565) := fun v565 => decidable_of_iff' _ (Iff.of_eq (k0_chk42.eq_1 v565))
theorem k0_off101_inb : ∀ (v565 : BitVec 32) (k0_hw42 : k0_chk42 v565), ∀ a, (k0_off101 v565) a + S1x64.size a ≤ S1000000x64.size a := fun v565 k0_hw42 => k0_hw42

def k0_off102 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_347 : BitVec 32 := 16#32
  let v504 : BitVec 32 := Scalar.muli arg13 c16_i32_347
  let c6_i32 : BitVec 32 := 6#32
  let v505 : BitVec 32 := Scalar.addi v504 c6_i32
  let c5_i32_376 : BitVec 32 := 5#32
  let v566 : BitVec 32 := Scalar.muli v505 c5_i32_376
  let c4_i32_377 : BitVec 32 := 4#32
  let v567 : BitVec 32 := Scalar.addi v566 c4_i32_377
  let c0_i32_380 : BitVec 32 := 0#32
  ![v567.toNat, 0]
def k0_off103 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_382 : BitVec 32 := 16#32
  let v576 : BitVec 32 := Scalar.muli arg13 c16_i32_382
  let c7_i32 : BitVec 32 := 7#32
  let v577 : BitVec 32 := Scalar.addi v576 c7_i32
  let c0_i32_383 : BitVec 32 := 0#32
  ![v577.toNat, 0]
def k0_off104 (v579 : BitVec 32) : Fin 2 → Nat :=
  let c0_i32_384 : BitVec 32 := 0#32
  ![v579.toNat, 0]

def k0_chk43 (v579 : BitVec 32) : Prop :=
  (∀ a, (k0_off104 v579) a + S1x64.size a ≤ S1000000x64.size a)
instance k0_chk43.dec : ∀ (v579 : BitVec 32), Decidable (k0_chk43 v579) := fun v579 => decidable_of_iff' _ (Iff.of_eq (k0_chk43.eq_1 v579))
theorem k0_off104_inb : ∀ (v579 : BitVec 32) (k0_hw43 : k0_chk43 v579), ∀ a, (k0_off104 v579) a + S1x64.size a ≤ S1000000x64.size a := fun v579 k0_hw43 => k0_hw43

def k0_off105 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_382 : BitVec 32 := 16#32
  let v576 : BitVec 32 := Scalar.muli arg13 c16_i32_382
  let c7_i32 : BitVec 32 := 7#32
  let v577 : BitVec 32 := Scalar.addi v576 c7_i32
  let c0_i32_385 : BitVec 32 := 0#32
  ![v577.toNat, 0]
def k0_off106 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_382 : BitVec 32 := 16#32
  let v576 : BitVec 32 := Scalar.muli arg13 c16_i32_382
  let c7_i32 : BitVec 32 := 7#32
  let v577 : BitVec 32 := Scalar.addi v576 c7_i32
  let c5_i32_387 : BitVec 32 := 5#32
  let v590 : BitVec 32 := Scalar.muli v577 c5_i32_387
  let c0_i32_388 : BitVec 32 := 0#32
  let v591 : BitVec 32 := Scalar.addi v590 c0_i32_388
  let c0_i32_389 : BitVec 32 := 0#32
  ![v591.toNat, 0]
def k0_off107 (v589 : BitVec 32) : Fin 2 → Nat :=
  let c0_i32_390 : BitVec 32 := 0#32
  ![v589.toNat, 0]

def k0_chk44 (v589 : BitVec 32) : Prop :=
  (∀ a, (k0_off107 v589) a + S1x64.size a ≤ S1000000x64.size a)
instance k0_chk44.dec : ∀ (v589 : BitVec 32), Decidable (k0_chk44 v589) := fun v589 => decidable_of_iff' _ (Iff.of_eq (k0_chk44.eq_1 v589))
theorem k0_off107_inb : ∀ (v589 : BitVec 32) (k0_hw44 : k0_chk44 v589), ∀ a, (k0_off107 v589) a + S1x64.size a ≤ S1000000x64.size a := fun v589 k0_hw44 => k0_hw44

def k0_off108 (k0_t1 : Fin k0_t1_loop.trips) (c0_i32_388 : BitVec 32) : Fin 2 → Nat :=
  let c0_i32_0 : BitVec 32 := 0#32
  let c1_i32 : BitVec 32 := 1#32
  let arg13 : BitVec 32 := Scf.iv c0_i32_0 c1_i32 k0_t1
  let c16_i32_382 : BitVec 32 := 16#32
  let v576 : BitVec 32 := Scalar.muli arg13 c16_i32_382
  let c7_i32 : BitVec 32 := 7#32
  let v577 : BitVec 32 := Scalar.addi v576 c7_i32
  let c5_i32_387 : BitVec 32 := 5#32
  let v590 : BitVec 32 := Scalar.muli v577 c5_i32_387
  let v591 : BitVec 32 := Scalar.addi v590 c0_i32_388
  let c0_i32_391 : BitVec 32 := 0#32
  ![v591.toNat, 0]
def k0_off109 (v601 : BitVec 32) : Fin 2 → Nat :=
  let c0_i32_396 : BitVec 32 := 0#32
  ![v601.toNat, 0]

def k0_chk45 (v601 : BitVec 32) : Prop :=
  (∀ a, (k0_off109 v601) a + S1x64.size a ≤ S1000000x64.size a)
instance k0_chk45.dec : ∀ (v601 : BitVec 32), Decidable (k0_chk45 v601) := fun v601 => decidable_of_iff' _ (Iff.of_eq (k0_chk45.eq_1 v601))
theorem k0_off109_inb : ∀ (v601 : BitVec 32) (k0_hw45 : k0_chk45 v601), ∀ a, (k0_off109 v601) a + S1x64.size a ≤ S1000000x64.size a := fun v601 k0_hw45 => k0_hw45

def k0_off110 (k0_t1 : Fin k0_t1_loop.trips) (c1_i32_394 : BitVec 32) : Fin 2 → Nat :=
  let c0_i32_0 : BitVec 32 := 0#32
  let c1_i32 : BitVec 32 := 1#32
  let arg13 : BitVec 32 := Scf.iv c0_i32_0 c1_i32 k0_t1
  let c16_i32_382 : BitVec 32 := 16#32
  let v576 : BitVec 32 := Scalar.muli arg13 c16_i32_382
  let c7_i32 : BitVec 32 := 7#32
  let v577 : BitVec 32 := Scalar.addi v576 c7_i32
  let c5_i32_393 : BitVec 32 := 5#32
  let v602 : BitVec 32 := Scalar.muli v577 c5_i32_393
  let v603 : BitVec 32 := Scalar.addi v602 c1_i32_394
  let c0_i32_397 : BitVec 32 := 0#32
  ![v603.toNat, 0]
def k0_off111 (v613 : BitVec 32) : Fin 2 → Nat :=
  let c0_i32_402 : BitVec 32 := 0#32
  ![v613.toNat, 0]

def k0_chk46 (v613 : BitVec 32) : Prop :=
  (∀ a, (k0_off111 v613) a + S1x64.size a ≤ S1000000x64.size a)
instance k0_chk46.dec : ∀ (v613 : BitVec 32), Decidable (k0_chk46 v613) := fun v613 => decidable_of_iff' _ (Iff.of_eq (k0_chk46.eq_1 v613))
theorem k0_off111_inb : ∀ (v613 : BitVec 32) (k0_hw46 : k0_chk46 v613), ∀ a, (k0_off111 v613) a + S1x64.size a ≤ S1000000x64.size a := fun v613 k0_hw46 => k0_hw46

def k0_off112 (k0_t1 : Fin k0_t1_loop.trips) (c2_i32_400 : BitVec 32) : Fin 2 → Nat :=
  let c0_i32_0 : BitVec 32 := 0#32
  let c1_i32 : BitVec 32 := 1#32
  let arg13 : BitVec 32 := Scf.iv c0_i32_0 c1_i32 k0_t1
  let c16_i32_382 : BitVec 32 := 16#32
  let v576 : BitVec 32 := Scalar.muli arg13 c16_i32_382
  let c7_i32 : BitVec 32 := 7#32
  let v577 : BitVec 32 := Scalar.addi v576 c7_i32
  let c5_i32_399 : BitVec 32 := 5#32
  let v614 : BitVec 32 := Scalar.muli v577 c5_i32_399
  let v615 : BitVec 32 := Scalar.addi v614 c2_i32_400
  let c0_i32_403 : BitVec 32 := 0#32
  ![v615.toNat, 0]
def k0_off113 (v625 : BitVec 32) : Fin 2 → Nat :=
  let c0_i32_408 : BitVec 32 := 0#32
  ![v625.toNat, 0]

def k0_chk47 (v625 : BitVec 32) : Prop :=
  (∀ a, (k0_off113 v625) a + S1x64.size a ≤ S1000000x64.size a)
instance k0_chk47.dec : ∀ (v625 : BitVec 32), Decidable (k0_chk47 v625) := fun v625 => decidable_of_iff' _ (Iff.of_eq (k0_chk47.eq_1 v625))
theorem k0_off113_inb : ∀ (v625 : BitVec 32) (k0_hw47 : k0_chk47 v625), ∀ a, (k0_off113 v625) a + S1x64.size a ≤ S1000000x64.size a := fun v625 k0_hw47 => k0_hw47

def k0_off114 (k0_t1 : Fin k0_t1_loop.trips) (c3_i32_406 : BitVec 32) : Fin 2 → Nat :=
  let c0_i32_0 : BitVec 32 := 0#32
  let c1_i32 : BitVec 32 := 1#32
  let arg13 : BitVec 32 := Scf.iv c0_i32_0 c1_i32 k0_t1
  let c16_i32_382 : BitVec 32 := 16#32
  let v576 : BitVec 32 := Scalar.muli arg13 c16_i32_382
  let c7_i32 : BitVec 32 := 7#32
  let v577 : BitVec 32 := Scalar.addi v576 c7_i32
  let c5_i32_405 : BitVec 32 := 5#32
  let v626 : BitVec 32 := Scalar.muli v577 c5_i32_405
  let v627 : BitVec 32 := Scalar.addi v626 c3_i32_406
  let c0_i32_409 : BitVec 32 := 0#32
  ![v627.toNat, 0]
def k0_off115 (v637 : BitVec 32) : Fin 2 → Nat :=
  let c0_i32_414 : BitVec 32 := 0#32
  ![v637.toNat, 0]

def k0_chk48 (v637 : BitVec 32) : Prop :=
  (∀ a, (k0_off115 v637) a + S1x64.size a ≤ S1000000x64.size a)
instance k0_chk48.dec : ∀ (v637 : BitVec 32), Decidable (k0_chk48 v637) := fun v637 => decidable_of_iff' _ (Iff.of_eq (k0_chk48.eq_1 v637))
theorem k0_off115_inb : ∀ (v637 : BitVec 32) (k0_hw48 : k0_chk48 v637), ∀ a, (k0_off115 v637) a + S1x64.size a ≤ S1000000x64.size a := fun v637 k0_hw48 => k0_hw48

def k0_off116 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_382 : BitVec 32 := 16#32
  let v576 : BitVec 32 := Scalar.muli arg13 c16_i32_382
  let c7_i32 : BitVec 32 := 7#32
  let v577 : BitVec 32 := Scalar.addi v576 c7_i32
  let c5_i32_411 : BitVec 32 := 5#32
  let v638 : BitVec 32 := Scalar.muli v577 c5_i32_411
  let c4_i32_412 : BitVec 32 := 4#32
  let v639 : BitVec 32 := Scalar.addi v638 c4_i32_412
  let c0_i32_415 : BitVec 32 := 0#32
  ![v639.toNat, 0]
def k0_off117 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_417 : BitVec 32 := 16#32
  let v648 : BitVec 32 := Scalar.muli arg13 c16_i32_417
  let c8_i32 : BitVec 32 := 8#32
  let v649 : BitVec 32 := Scalar.addi v648 c8_i32
  let c0_i32_418 : BitVec 32 := 0#32
  ![v649.toNat, 0]
def k0_off118 (v651 : BitVec 32) : Fin 2 → Nat :=
  let c0_i32_419 : BitVec 32 := 0#32
  ![v651.toNat, 0]

def k0_chk49 (v651 : BitVec 32) : Prop :=
  (∀ a, (k0_off118 v651) a + S1x64.size a ≤ S1000000x64.size a)
instance k0_chk49.dec : ∀ (v651 : BitVec 32), Decidable (k0_chk49 v651) := fun v651 => decidable_of_iff' _ (Iff.of_eq (k0_chk49.eq_1 v651))
theorem k0_off118_inb : ∀ (v651 : BitVec 32) (k0_hw49 : k0_chk49 v651), ∀ a, (k0_off118 v651) a + S1x64.size a ≤ S1000000x64.size a := fun v651 k0_hw49 => k0_hw49

def k0_off119 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_417 : BitVec 32 := 16#32
  let v648 : BitVec 32 := Scalar.muli arg13 c16_i32_417
  let c8_i32 : BitVec 32 := 8#32
  let v649 : BitVec 32 := Scalar.addi v648 c8_i32
  let c0_i32_420 : BitVec 32 := 0#32
  ![v649.toNat, 0]
def k0_off120 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_417 : BitVec 32 := 16#32
  let v648 : BitVec 32 := Scalar.muli arg13 c16_i32_417
  let c8_i32 : BitVec 32 := 8#32
  let v649 : BitVec 32 := Scalar.addi v648 c8_i32
  let c5_i32_422 : BitVec 32 := 5#32
  let v662 : BitVec 32 := Scalar.muli v649 c5_i32_422
  let c0_i32_423 : BitVec 32 := 0#32
  let v663 : BitVec 32 := Scalar.addi v662 c0_i32_423
  let c0_i32_424 : BitVec 32 := 0#32
  ![v663.toNat, 0]
def k0_off121 (v661 : BitVec 32) : Fin 2 → Nat :=
  let c0_i32_425 : BitVec 32 := 0#32
  ![v661.toNat, 0]

def k0_chk50 (v661 : BitVec 32) : Prop :=
  (∀ a, (k0_off121 v661) a + S1x64.size a ≤ S1000000x64.size a)
instance k0_chk50.dec : ∀ (v661 : BitVec 32), Decidable (k0_chk50 v661) := fun v661 => decidable_of_iff' _ (Iff.of_eq (k0_chk50.eq_1 v661))
theorem k0_off121_inb : ∀ (v661 : BitVec 32) (k0_hw50 : k0_chk50 v661), ∀ a, (k0_off121 v661) a + S1x64.size a ≤ S1000000x64.size a := fun v661 k0_hw50 => k0_hw50

def k0_off122 (k0_t1 : Fin k0_t1_loop.trips) (c0_i32_423 : BitVec 32) : Fin 2 → Nat :=
  let c0_i32_0 : BitVec 32 := 0#32
  let c1_i32 : BitVec 32 := 1#32
  let arg13 : BitVec 32 := Scf.iv c0_i32_0 c1_i32 k0_t1
  let c16_i32_417 : BitVec 32 := 16#32
  let v648 : BitVec 32 := Scalar.muli arg13 c16_i32_417
  let c8_i32 : BitVec 32 := 8#32
  let v649 : BitVec 32 := Scalar.addi v648 c8_i32
  let c5_i32_422 : BitVec 32 := 5#32
  let v662 : BitVec 32 := Scalar.muli v649 c5_i32_422
  let v663 : BitVec 32 := Scalar.addi v662 c0_i32_423
  let c0_i32_426 : BitVec 32 := 0#32
  ![v663.toNat, 0]
def k0_off123 (v673 : BitVec 32) : Fin 2 → Nat :=
  let c0_i32_431 : BitVec 32 := 0#32
  ![v673.toNat, 0]

def k0_chk51 (v673 : BitVec 32) : Prop :=
  (∀ a, (k0_off123 v673) a + S1x64.size a ≤ S1000000x64.size a)
instance k0_chk51.dec : ∀ (v673 : BitVec 32), Decidable (k0_chk51 v673) := fun v673 => decidable_of_iff' _ (Iff.of_eq (k0_chk51.eq_1 v673))
theorem k0_off123_inb : ∀ (v673 : BitVec 32) (k0_hw51 : k0_chk51 v673), ∀ a, (k0_off123 v673) a + S1x64.size a ≤ S1000000x64.size a := fun v673 k0_hw51 => k0_hw51

def k0_off124 (k0_t1 : Fin k0_t1_loop.trips) (c1_i32_429 : BitVec 32) : Fin 2 → Nat :=
  let c0_i32_0 : BitVec 32 := 0#32
  let c1_i32 : BitVec 32 := 1#32
  let arg13 : BitVec 32 := Scf.iv c0_i32_0 c1_i32 k0_t1
  let c16_i32_417 : BitVec 32 := 16#32
  let v648 : BitVec 32 := Scalar.muli arg13 c16_i32_417
  let c8_i32 : BitVec 32 := 8#32
  let v649 : BitVec 32 := Scalar.addi v648 c8_i32
  let c5_i32_428 : BitVec 32 := 5#32
  let v674 : BitVec 32 := Scalar.muli v649 c5_i32_428
  let v675 : BitVec 32 := Scalar.addi v674 c1_i32_429
  let c0_i32_432 : BitVec 32 := 0#32
  ![v675.toNat, 0]
def k0_off125 (v685 : BitVec 32) : Fin 2 → Nat :=
  let c0_i32_437 : BitVec 32 := 0#32
  ![v685.toNat, 0]

def k0_chk52 (v685 : BitVec 32) : Prop :=
  (∀ a, (k0_off125 v685) a + S1x64.size a ≤ S1000000x64.size a)
instance k0_chk52.dec : ∀ (v685 : BitVec 32), Decidable (k0_chk52 v685) := fun v685 => decidable_of_iff' _ (Iff.of_eq (k0_chk52.eq_1 v685))
theorem k0_off125_inb : ∀ (v685 : BitVec 32) (k0_hw52 : k0_chk52 v685), ∀ a, (k0_off125 v685) a + S1x64.size a ≤ S1000000x64.size a := fun v685 k0_hw52 => k0_hw52

def k0_off126 (k0_t1 : Fin k0_t1_loop.trips) (c2_i32_435 : BitVec 32) : Fin 2 → Nat :=
  let c0_i32_0 : BitVec 32 := 0#32
  let c1_i32 : BitVec 32 := 1#32
  let arg13 : BitVec 32 := Scf.iv c0_i32_0 c1_i32 k0_t1
  let c16_i32_417 : BitVec 32 := 16#32
  let v648 : BitVec 32 := Scalar.muli arg13 c16_i32_417
  let c8_i32 : BitVec 32 := 8#32
  let v649 : BitVec 32 := Scalar.addi v648 c8_i32
  let c5_i32_434 : BitVec 32 := 5#32
  let v686 : BitVec 32 := Scalar.muli v649 c5_i32_434
  let v687 : BitVec 32 := Scalar.addi v686 c2_i32_435
  let c0_i32_438 : BitVec 32 := 0#32
  ![v687.toNat, 0]
def k0_off127 (v697 : BitVec 32) : Fin 2 → Nat :=
  let c0_i32_443 : BitVec 32 := 0#32
  ![v697.toNat, 0]

def k0_chk53 (v697 : BitVec 32) : Prop :=
  (∀ a, (k0_off127 v697) a + S1x64.size a ≤ S1000000x64.size a)
instance k0_chk53.dec : ∀ (v697 : BitVec 32), Decidable (k0_chk53 v697) := fun v697 => decidable_of_iff' _ (Iff.of_eq (k0_chk53.eq_1 v697))
theorem k0_off127_inb : ∀ (v697 : BitVec 32) (k0_hw53 : k0_chk53 v697), ∀ a, (k0_off127 v697) a + S1x64.size a ≤ S1000000x64.size a := fun v697 k0_hw53 => k0_hw53

def k0_off128 (k0_t1 : Fin k0_t1_loop.trips) (c3_i32_441 : BitVec 32) : Fin 2 → Nat :=
  let c0_i32_0 : BitVec 32 := 0#32
  let c1_i32 : BitVec 32 := 1#32
  let arg13 : BitVec 32 := Scf.iv c0_i32_0 c1_i32 k0_t1
  let c16_i32_417 : BitVec 32 := 16#32
  let v648 : BitVec 32 := Scalar.muli arg13 c16_i32_417
  let c8_i32 : BitVec 32 := 8#32
  let v649 : BitVec 32 := Scalar.addi v648 c8_i32
  let c5_i32_440 : BitVec 32 := 5#32
  let v698 : BitVec 32 := Scalar.muli v649 c5_i32_440
  let v699 : BitVec 32 := Scalar.addi v698 c3_i32_441
  let c0_i32_444 : BitVec 32 := 0#32
  ![v699.toNat, 0]
def k0_off129 (v709 : BitVec 32) : Fin 2 → Nat :=
  let c0_i32_449 : BitVec 32 := 0#32
  ![v709.toNat, 0]

def k0_chk54 (v709 : BitVec 32) : Prop :=
  (∀ a, (k0_off129 v709) a + S1x64.size a ≤ S1000000x64.size a)
instance k0_chk54.dec : ∀ (v709 : BitVec 32), Decidable (k0_chk54 v709) := fun v709 => decidable_of_iff' _ (Iff.of_eq (k0_chk54.eq_1 v709))
theorem k0_off129_inb : ∀ (v709 : BitVec 32) (k0_hw54 : k0_chk54 v709), ∀ a, (k0_off129 v709) a + S1x64.size a ≤ S1000000x64.size a := fun v709 k0_hw54 => k0_hw54

def k0_off130 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_417 : BitVec 32 := 16#32
  let v648 : BitVec 32 := Scalar.muli arg13 c16_i32_417
  let c8_i32 : BitVec 32 := 8#32
  let v649 : BitVec 32 := Scalar.addi v648 c8_i32
  let c5_i32_446 : BitVec 32 := 5#32
  let v710 : BitVec 32 := Scalar.muli v649 c5_i32_446
  let c4_i32_447 : BitVec 32 := 4#32
  let v711 : BitVec 32 := Scalar.addi v710 c4_i32_447
  let c0_i32_450 : BitVec 32 := 0#32
  ![v711.toNat, 0]
def k0_off131 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_452 : BitVec 32 := 16#32
  let v720 : BitVec 32 := Scalar.muli arg13 c16_i32_452
  let c9_i32 : BitVec 32 := 9#32
  let v721 : BitVec 32 := Scalar.addi v720 c9_i32
  let c0_i32_453 : BitVec 32 := 0#32
  ![v721.toNat, 0]
def k0_off132 (v723 : BitVec 32) : Fin 2 → Nat :=
  let c0_i32_454 : BitVec 32 := 0#32
  ![v723.toNat, 0]

def k0_chk55 (v723 : BitVec 32) : Prop :=
  (∀ a, (k0_off132 v723) a + S1x64.size a ≤ S1000000x64.size a)
instance k0_chk55.dec : ∀ (v723 : BitVec 32), Decidable (k0_chk55 v723) := fun v723 => decidable_of_iff' _ (Iff.of_eq (k0_chk55.eq_1 v723))
theorem k0_off132_inb : ∀ (v723 : BitVec 32) (k0_hw55 : k0_chk55 v723), ∀ a, (k0_off132 v723) a + S1x64.size a ≤ S1000000x64.size a := fun v723 k0_hw55 => k0_hw55

def k0_off133 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_452 : BitVec 32 := 16#32
  let v720 : BitVec 32 := Scalar.muli arg13 c16_i32_452
  let c9_i32 : BitVec 32 := 9#32
  let v721 : BitVec 32 := Scalar.addi v720 c9_i32
  let c0_i32_455 : BitVec 32 := 0#32
  ![v721.toNat, 0]
def k0_off134 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_452 : BitVec 32 := 16#32
  let v720 : BitVec 32 := Scalar.muli arg13 c16_i32_452
  let c9_i32 : BitVec 32 := 9#32
  let v721 : BitVec 32 := Scalar.addi v720 c9_i32
  let c5_i32_457 : BitVec 32 := 5#32
  let v734 : BitVec 32 := Scalar.muli v721 c5_i32_457
  let c0_i32_458 : BitVec 32 := 0#32
  let v735 : BitVec 32 := Scalar.addi v734 c0_i32_458
  let c0_i32_459 : BitVec 32 := 0#32
  ![v735.toNat, 0]
def k0_off135 (v733 : BitVec 32) : Fin 2 → Nat :=
  let c0_i32_460 : BitVec 32 := 0#32
  ![v733.toNat, 0]

def k0_chk56 (v733 : BitVec 32) : Prop :=
  (∀ a, (k0_off135 v733) a + S1x64.size a ≤ S1000000x64.size a)
instance k0_chk56.dec : ∀ (v733 : BitVec 32), Decidable (k0_chk56 v733) := fun v733 => decidable_of_iff' _ (Iff.of_eq (k0_chk56.eq_1 v733))
theorem k0_off135_inb : ∀ (v733 : BitVec 32) (k0_hw56 : k0_chk56 v733), ∀ a, (k0_off135 v733) a + S1x64.size a ≤ S1000000x64.size a := fun v733 k0_hw56 => k0_hw56

def k0_off136 (k0_t1 : Fin k0_t1_loop.trips) (c0_i32_458 : BitVec 32) : Fin 2 → Nat :=
  let c0_i32_0 : BitVec 32 := 0#32
  let c1_i32 : BitVec 32 := 1#32
  let arg13 : BitVec 32 := Scf.iv c0_i32_0 c1_i32 k0_t1
  let c16_i32_452 : BitVec 32 := 16#32
  let v720 : BitVec 32 := Scalar.muli arg13 c16_i32_452
  let c9_i32 : BitVec 32 := 9#32
  let v721 : BitVec 32 := Scalar.addi v720 c9_i32
  let c5_i32_457 : BitVec 32 := 5#32
  let v734 : BitVec 32 := Scalar.muli v721 c5_i32_457
  let v735 : BitVec 32 := Scalar.addi v734 c0_i32_458
  let c0_i32_461 : BitVec 32 := 0#32
  ![v735.toNat, 0]
def k0_off137 (v745 : BitVec 32) : Fin 2 → Nat :=
  let c0_i32_466 : BitVec 32 := 0#32
  ![v745.toNat, 0]

def k0_chk57 (v745 : BitVec 32) : Prop :=
  (∀ a, (k0_off137 v745) a + S1x64.size a ≤ S1000000x64.size a)
instance k0_chk57.dec : ∀ (v745 : BitVec 32), Decidable (k0_chk57 v745) := fun v745 => decidable_of_iff' _ (Iff.of_eq (k0_chk57.eq_1 v745))
theorem k0_off137_inb : ∀ (v745 : BitVec 32) (k0_hw57 : k0_chk57 v745), ∀ a, (k0_off137 v745) a + S1x64.size a ≤ S1000000x64.size a := fun v745 k0_hw57 => k0_hw57

def k0_off138 (k0_t1 : Fin k0_t1_loop.trips) (c1_i32_464 : BitVec 32) : Fin 2 → Nat :=
  let c0_i32_0 : BitVec 32 := 0#32
  let c1_i32 : BitVec 32 := 1#32
  let arg13 : BitVec 32 := Scf.iv c0_i32_0 c1_i32 k0_t1
  let c16_i32_452 : BitVec 32 := 16#32
  let v720 : BitVec 32 := Scalar.muli arg13 c16_i32_452
  let c9_i32 : BitVec 32 := 9#32
  let v721 : BitVec 32 := Scalar.addi v720 c9_i32
  let c5_i32_463 : BitVec 32 := 5#32
  let v746 : BitVec 32 := Scalar.muli v721 c5_i32_463
  let v747 : BitVec 32 := Scalar.addi v746 c1_i32_464
  let c0_i32_467 : BitVec 32 := 0#32
  ![v747.toNat, 0]
def k0_off139 (v757 : BitVec 32) : Fin 2 → Nat :=
  let c0_i32_472 : BitVec 32 := 0#32
  ![v757.toNat, 0]

def k0_chk58 (v757 : BitVec 32) : Prop :=
  (∀ a, (k0_off139 v757) a + S1x64.size a ≤ S1000000x64.size a)
instance k0_chk58.dec : ∀ (v757 : BitVec 32), Decidable (k0_chk58 v757) := fun v757 => decidable_of_iff' _ (Iff.of_eq (k0_chk58.eq_1 v757))
theorem k0_off139_inb : ∀ (v757 : BitVec 32) (k0_hw58 : k0_chk58 v757), ∀ a, (k0_off139 v757) a + S1x64.size a ≤ S1000000x64.size a := fun v757 k0_hw58 => k0_hw58

def k0_off140 (k0_t1 : Fin k0_t1_loop.trips) (c2_i32_470 : BitVec 32) : Fin 2 → Nat :=
  let c0_i32_0 : BitVec 32 := 0#32
  let c1_i32 : BitVec 32 := 1#32
  let arg13 : BitVec 32 := Scf.iv c0_i32_0 c1_i32 k0_t1
  let c16_i32_452 : BitVec 32 := 16#32
  let v720 : BitVec 32 := Scalar.muli arg13 c16_i32_452
  let c9_i32 : BitVec 32 := 9#32
  let v721 : BitVec 32 := Scalar.addi v720 c9_i32
  let c5_i32_469 : BitVec 32 := 5#32
  let v758 : BitVec 32 := Scalar.muli v721 c5_i32_469
  let v759 : BitVec 32 := Scalar.addi v758 c2_i32_470
  let c0_i32_473 : BitVec 32 := 0#32
  ![v759.toNat, 0]
def k0_off141 (v769 : BitVec 32) : Fin 2 → Nat :=
  let c0_i32_478 : BitVec 32 := 0#32
  ![v769.toNat, 0]

def k0_chk59 (v769 : BitVec 32) : Prop :=
  (∀ a, (k0_off141 v769) a + S1x64.size a ≤ S1000000x64.size a)
instance k0_chk59.dec : ∀ (v769 : BitVec 32), Decidable (k0_chk59 v769) := fun v769 => decidable_of_iff' _ (Iff.of_eq (k0_chk59.eq_1 v769))
theorem k0_off141_inb : ∀ (v769 : BitVec 32) (k0_hw59 : k0_chk59 v769), ∀ a, (k0_off141 v769) a + S1x64.size a ≤ S1000000x64.size a := fun v769 k0_hw59 => k0_hw59

def k0_off142 (k0_t1 : Fin k0_t1_loop.trips) (c3_i32_476 : BitVec 32) : Fin 2 → Nat :=
  let c0_i32_0 : BitVec 32 := 0#32
  let c1_i32 : BitVec 32 := 1#32
  let arg13 : BitVec 32 := Scf.iv c0_i32_0 c1_i32 k0_t1
  let c16_i32_452 : BitVec 32 := 16#32
  let v720 : BitVec 32 := Scalar.muli arg13 c16_i32_452
  let c9_i32 : BitVec 32 := 9#32
  let v721 : BitVec 32 := Scalar.addi v720 c9_i32
  let c5_i32_475 : BitVec 32 := 5#32
  let v770 : BitVec 32 := Scalar.muli v721 c5_i32_475
  let v771 : BitVec 32 := Scalar.addi v770 c3_i32_476
  let c0_i32_479 : BitVec 32 := 0#32
  ![v771.toNat, 0]
def k0_off143 (v781 : BitVec 32) : Fin 2 → Nat :=
  let c0_i32_484 : BitVec 32 := 0#32
  ![v781.toNat, 0]

def k0_chk60 (v781 : BitVec 32) : Prop :=
  (∀ a, (k0_off143 v781) a + S1x64.size a ≤ S1000000x64.size a)
instance k0_chk60.dec : ∀ (v781 : BitVec 32), Decidable (k0_chk60 v781) := fun v781 => decidable_of_iff' _ (Iff.of_eq (k0_chk60.eq_1 v781))
theorem k0_off143_inb : ∀ (v781 : BitVec 32) (k0_hw60 : k0_chk60 v781), ∀ a, (k0_off143 v781) a + S1x64.size a ≤ S1000000x64.size a := fun v781 k0_hw60 => k0_hw60

def k0_off144 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_452 : BitVec 32 := 16#32
  let v720 : BitVec 32 := Scalar.muli arg13 c16_i32_452
  let c9_i32 : BitVec 32 := 9#32
  let v721 : BitVec 32 := Scalar.addi v720 c9_i32
  let c5_i32_481 : BitVec 32 := 5#32
  let v782 : BitVec 32 := Scalar.muli v721 c5_i32_481
  let c4_i32_482 : BitVec 32 := 4#32
  let v783 : BitVec 32 := Scalar.addi v782 c4_i32_482
  let c0_i32_485 : BitVec 32 := 0#32
  ![v783.toNat, 0]
def k0_off145 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_487 : BitVec 32 := 16#32
  let v792 : BitVec 32 := Scalar.muli arg13 c16_i32_487
  let c10_i32 : BitVec 32 := 10#32
  let v793 : BitVec 32 := Scalar.addi v792 c10_i32
  let c0_i32_488 : BitVec 32 := 0#32
  ![v793.toNat, 0]
def k0_off146 (v795 : BitVec 32) : Fin 2 → Nat :=
  let c0_i32_489 : BitVec 32 := 0#32
  ![v795.toNat, 0]

def k0_chk61 (v795 : BitVec 32) : Prop :=
  (∀ a, (k0_off146 v795) a + S1x64.size a ≤ S1000000x64.size a)
instance k0_chk61.dec : ∀ (v795 : BitVec 32), Decidable (k0_chk61 v795) := fun v795 => decidable_of_iff' _ (Iff.of_eq (k0_chk61.eq_1 v795))
theorem k0_off146_inb : ∀ (v795 : BitVec 32) (k0_hw61 : k0_chk61 v795), ∀ a, (k0_off146 v795) a + S1x64.size a ≤ S1000000x64.size a := fun v795 k0_hw61 => k0_hw61

def k0_off147 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_487 : BitVec 32 := 16#32
  let v792 : BitVec 32 := Scalar.muli arg13 c16_i32_487
  let c10_i32 : BitVec 32 := 10#32
  let v793 : BitVec 32 := Scalar.addi v792 c10_i32
  let c0_i32_490 : BitVec 32 := 0#32
  ![v793.toNat, 0]
def k0_off148 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_487 : BitVec 32 := 16#32
  let v792 : BitVec 32 := Scalar.muli arg13 c16_i32_487
  let c10_i32 : BitVec 32 := 10#32
  let v793 : BitVec 32 := Scalar.addi v792 c10_i32
  let c5_i32_492 : BitVec 32 := 5#32
  let v806 : BitVec 32 := Scalar.muli v793 c5_i32_492
  let c0_i32_493 : BitVec 32 := 0#32
  let v807 : BitVec 32 := Scalar.addi v806 c0_i32_493
  let c0_i32_494 : BitVec 32 := 0#32
  ![v807.toNat, 0]
def k0_off149 (v805 : BitVec 32) : Fin 2 → Nat :=
  let c0_i32_495 : BitVec 32 := 0#32
  ![v805.toNat, 0]

def k0_chk62 (v805 : BitVec 32) : Prop :=
  (∀ a, (k0_off149 v805) a + S1x64.size a ≤ S1000000x64.size a)
instance k0_chk62.dec : ∀ (v805 : BitVec 32), Decidable (k0_chk62 v805) := fun v805 => decidable_of_iff' _ (Iff.of_eq (k0_chk62.eq_1 v805))
theorem k0_off149_inb : ∀ (v805 : BitVec 32) (k0_hw62 : k0_chk62 v805), ∀ a, (k0_off149 v805) a + S1x64.size a ≤ S1000000x64.size a := fun v805 k0_hw62 => k0_hw62

def k0_off150 (k0_t1 : Fin k0_t1_loop.trips) (c0_i32_493 : BitVec 32) : Fin 2 → Nat :=
  let c0_i32_0 : BitVec 32 := 0#32
  let c1_i32 : BitVec 32 := 1#32
  let arg13 : BitVec 32 := Scf.iv c0_i32_0 c1_i32 k0_t1
  let c16_i32_487 : BitVec 32 := 16#32
  let v792 : BitVec 32 := Scalar.muli arg13 c16_i32_487
  let c10_i32 : BitVec 32 := 10#32
  let v793 : BitVec 32 := Scalar.addi v792 c10_i32
  let c5_i32_492 : BitVec 32 := 5#32
  let v806 : BitVec 32 := Scalar.muli v793 c5_i32_492
  let v807 : BitVec 32 := Scalar.addi v806 c0_i32_493
  let c0_i32_496 : BitVec 32 := 0#32
  ![v807.toNat, 0]
def k0_off151 (v817 : BitVec 32) : Fin 2 → Nat :=
  let c0_i32_501 : BitVec 32 := 0#32
  ![v817.toNat, 0]

def k0_chk63 (v817 : BitVec 32) : Prop :=
  (∀ a, (k0_off151 v817) a + S1x64.size a ≤ S1000000x64.size a)
instance k0_chk63.dec : ∀ (v817 : BitVec 32), Decidable (k0_chk63 v817) := fun v817 => decidable_of_iff' _ (Iff.of_eq (k0_chk63.eq_1 v817))
theorem k0_off151_inb : ∀ (v817 : BitVec 32) (k0_hw63 : k0_chk63 v817), ∀ a, (k0_off151 v817) a + S1x64.size a ≤ S1000000x64.size a := fun v817 k0_hw63 => k0_hw63

def k0_off152 (k0_t1 : Fin k0_t1_loop.trips) (c1_i32_499 : BitVec 32) : Fin 2 → Nat :=
  let c0_i32_0 : BitVec 32 := 0#32
  let c1_i32 : BitVec 32 := 1#32
  let arg13 : BitVec 32 := Scf.iv c0_i32_0 c1_i32 k0_t1
  let c16_i32_487 : BitVec 32 := 16#32
  let v792 : BitVec 32 := Scalar.muli arg13 c16_i32_487
  let c10_i32 : BitVec 32 := 10#32
  let v793 : BitVec 32 := Scalar.addi v792 c10_i32
  let c5_i32_498 : BitVec 32 := 5#32
  let v818 : BitVec 32 := Scalar.muli v793 c5_i32_498
  let v819 : BitVec 32 := Scalar.addi v818 c1_i32_499
  let c0_i32_502 : BitVec 32 := 0#32
  ![v819.toNat, 0]
def k0_off153 (v829 : BitVec 32) : Fin 2 → Nat :=
  let c0_i32_507 : BitVec 32 := 0#32
  ![v829.toNat, 0]

def k0_chk64 (v829 : BitVec 32) : Prop :=
  (∀ a, (k0_off153 v829) a + S1x64.size a ≤ S1000000x64.size a)
instance k0_chk64.dec : ∀ (v829 : BitVec 32), Decidable (k0_chk64 v829) := fun v829 => decidable_of_iff' _ (Iff.of_eq (k0_chk64.eq_1 v829))
theorem k0_off153_inb : ∀ (v829 : BitVec 32) (k0_hw64 : k0_chk64 v829), ∀ a, (k0_off153 v829) a + S1x64.size a ≤ S1000000x64.size a := fun v829 k0_hw64 => k0_hw64

def k0_off154 (k0_t1 : Fin k0_t1_loop.trips) (c2_i32_505 : BitVec 32) : Fin 2 → Nat :=
  let c0_i32_0 : BitVec 32 := 0#32
  let c1_i32 : BitVec 32 := 1#32
  let arg13 : BitVec 32 := Scf.iv c0_i32_0 c1_i32 k0_t1
  let c16_i32_487 : BitVec 32 := 16#32
  let v792 : BitVec 32 := Scalar.muli arg13 c16_i32_487
  let c10_i32 : BitVec 32 := 10#32
  let v793 : BitVec 32 := Scalar.addi v792 c10_i32
  let c5_i32_504 : BitVec 32 := 5#32
  let v830 : BitVec 32 := Scalar.muli v793 c5_i32_504
  let v831 : BitVec 32 := Scalar.addi v830 c2_i32_505
  let c0_i32_508 : BitVec 32 := 0#32
  ![v831.toNat, 0]
def k0_off155 (v841 : BitVec 32) : Fin 2 → Nat :=
  let c0_i32_513 : BitVec 32 := 0#32
  ![v841.toNat, 0]

def k0_chk65 (v841 : BitVec 32) : Prop :=
  (∀ a, (k0_off155 v841) a + S1x64.size a ≤ S1000000x64.size a)
instance k0_chk65.dec : ∀ (v841 : BitVec 32), Decidable (k0_chk65 v841) := fun v841 => decidable_of_iff' _ (Iff.of_eq (k0_chk65.eq_1 v841))
theorem k0_off155_inb : ∀ (v841 : BitVec 32) (k0_hw65 : k0_chk65 v841), ∀ a, (k0_off155 v841) a + S1x64.size a ≤ S1000000x64.size a := fun v841 k0_hw65 => k0_hw65

def k0_off156 (k0_t1 : Fin k0_t1_loop.trips) (c3_i32_511 : BitVec 32) : Fin 2 → Nat :=
  let c0_i32_0 : BitVec 32 := 0#32
  let c1_i32 : BitVec 32 := 1#32
  let arg13 : BitVec 32 := Scf.iv c0_i32_0 c1_i32 k0_t1
  let c16_i32_487 : BitVec 32 := 16#32
  let v792 : BitVec 32 := Scalar.muli arg13 c16_i32_487
  let c10_i32 : BitVec 32 := 10#32
  let v793 : BitVec 32 := Scalar.addi v792 c10_i32
  let c5_i32_510 : BitVec 32 := 5#32
  let v842 : BitVec 32 := Scalar.muli v793 c5_i32_510
  let v843 : BitVec 32 := Scalar.addi v842 c3_i32_511
  let c0_i32_514 : BitVec 32 := 0#32
  ![v843.toNat, 0]
def k0_off157 (v853 : BitVec 32) : Fin 2 → Nat :=
  let c0_i32_519 : BitVec 32 := 0#32
  ![v853.toNat, 0]

def k0_chk66 (v853 : BitVec 32) : Prop :=
  (∀ a, (k0_off157 v853) a + S1x64.size a ≤ S1000000x64.size a)
instance k0_chk66.dec : ∀ (v853 : BitVec 32), Decidable (k0_chk66 v853) := fun v853 => decidable_of_iff' _ (Iff.of_eq (k0_chk66.eq_1 v853))
theorem k0_off157_inb : ∀ (v853 : BitVec 32) (k0_hw66 : k0_chk66 v853), ∀ a, (k0_off157 v853) a + S1x64.size a ≤ S1000000x64.size a := fun v853 k0_hw66 => k0_hw66

def k0_off158 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_487 : BitVec 32 := 16#32
  let v792 : BitVec 32 := Scalar.muli arg13 c16_i32_487
  let c10_i32 : BitVec 32 := 10#32
  let v793 : BitVec 32 := Scalar.addi v792 c10_i32
  let c5_i32_516 : BitVec 32 := 5#32
  let v854 : BitVec 32 := Scalar.muli v793 c5_i32_516
  let c4_i32_517 : BitVec 32 := 4#32
  let v855 : BitVec 32 := Scalar.addi v854 c4_i32_517
  let c0_i32_520 : BitVec 32 := 0#32
  ![v855.toNat, 0]
def k0_off159 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_522 : BitVec 32 := 16#32
  let v864 : BitVec 32 := Scalar.muli arg13 c16_i32_522
  let c11_i32 : BitVec 32 := 11#32
  let v865 : BitVec 32 := Scalar.addi v864 c11_i32
  let c0_i32_523 : BitVec 32 := 0#32
  ![v865.toNat, 0]
def k0_off160 (v867 : BitVec 32) : Fin 2 → Nat :=
  let c0_i32_524 : BitVec 32 := 0#32
  ![v867.toNat, 0]

def k0_chk67 (v867 : BitVec 32) : Prop :=
  (∀ a, (k0_off160 v867) a + S1x64.size a ≤ S1000000x64.size a)
instance k0_chk67.dec : ∀ (v867 : BitVec 32), Decidable (k0_chk67 v867) := fun v867 => decidable_of_iff' _ (Iff.of_eq (k0_chk67.eq_1 v867))
theorem k0_off160_inb : ∀ (v867 : BitVec 32) (k0_hw67 : k0_chk67 v867), ∀ a, (k0_off160 v867) a + S1x64.size a ≤ S1000000x64.size a := fun v867 k0_hw67 => k0_hw67

def k0_off161 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_522 : BitVec 32 := 16#32
  let v864 : BitVec 32 := Scalar.muli arg13 c16_i32_522
  let c11_i32 : BitVec 32 := 11#32
  let v865 : BitVec 32 := Scalar.addi v864 c11_i32
  let c0_i32_525 : BitVec 32 := 0#32
  ![v865.toNat, 0]
def k0_off162 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_522 : BitVec 32 := 16#32
  let v864 : BitVec 32 := Scalar.muli arg13 c16_i32_522
  let c11_i32 : BitVec 32 := 11#32
  let v865 : BitVec 32 := Scalar.addi v864 c11_i32
  let c5_i32_527 : BitVec 32 := 5#32
  let v878 : BitVec 32 := Scalar.muli v865 c5_i32_527
  let c0_i32_528 : BitVec 32 := 0#32
  let v879 : BitVec 32 := Scalar.addi v878 c0_i32_528
  let c0_i32_529 : BitVec 32 := 0#32
  ![v879.toNat, 0]
def k0_off163 (v877 : BitVec 32) : Fin 2 → Nat :=
  let c0_i32_530 : BitVec 32 := 0#32
  ![v877.toNat, 0]

def k0_chk68 (v877 : BitVec 32) : Prop :=
  (∀ a, (k0_off163 v877) a + S1x64.size a ≤ S1000000x64.size a)
instance k0_chk68.dec : ∀ (v877 : BitVec 32), Decidable (k0_chk68 v877) := fun v877 => decidable_of_iff' _ (Iff.of_eq (k0_chk68.eq_1 v877))
theorem k0_off163_inb : ∀ (v877 : BitVec 32) (k0_hw68 : k0_chk68 v877), ∀ a, (k0_off163 v877) a + S1x64.size a ≤ S1000000x64.size a := fun v877 k0_hw68 => k0_hw68

def k0_off164 (k0_t1 : Fin k0_t1_loop.trips) (c0_i32_528 : BitVec 32) : Fin 2 → Nat :=
  let c0_i32_0 : BitVec 32 := 0#32
  let c1_i32 : BitVec 32 := 1#32
  let arg13 : BitVec 32 := Scf.iv c0_i32_0 c1_i32 k0_t1
  let c16_i32_522 : BitVec 32 := 16#32
  let v864 : BitVec 32 := Scalar.muli arg13 c16_i32_522
  let c11_i32 : BitVec 32 := 11#32
  let v865 : BitVec 32 := Scalar.addi v864 c11_i32
  let c5_i32_527 : BitVec 32 := 5#32
  let v878 : BitVec 32 := Scalar.muli v865 c5_i32_527
  let v879 : BitVec 32 := Scalar.addi v878 c0_i32_528
  let c0_i32_531 : BitVec 32 := 0#32
  ![v879.toNat, 0]
def k0_off165 (v889 : BitVec 32) : Fin 2 → Nat :=
  let c0_i32_536 : BitVec 32 := 0#32
  ![v889.toNat, 0]

def k0_chk69 (v889 : BitVec 32) : Prop :=
  (∀ a, (k0_off165 v889) a + S1x64.size a ≤ S1000000x64.size a)
instance k0_chk69.dec : ∀ (v889 : BitVec 32), Decidable (k0_chk69 v889) := fun v889 => decidable_of_iff' _ (Iff.of_eq (k0_chk69.eq_1 v889))
theorem k0_off165_inb : ∀ (v889 : BitVec 32) (k0_hw69 : k0_chk69 v889), ∀ a, (k0_off165 v889) a + S1x64.size a ≤ S1000000x64.size a := fun v889 k0_hw69 => k0_hw69

def k0_off166 (k0_t1 : Fin k0_t1_loop.trips) (c1_i32_534 : BitVec 32) : Fin 2 → Nat :=
  let c0_i32_0 : BitVec 32 := 0#32
  let c1_i32 : BitVec 32 := 1#32
  let arg13 : BitVec 32 := Scf.iv c0_i32_0 c1_i32 k0_t1
  let c16_i32_522 : BitVec 32 := 16#32
  let v864 : BitVec 32 := Scalar.muli arg13 c16_i32_522
  let c11_i32 : BitVec 32 := 11#32
  let v865 : BitVec 32 := Scalar.addi v864 c11_i32
  let c5_i32_533 : BitVec 32 := 5#32
  let v890 : BitVec 32 := Scalar.muli v865 c5_i32_533
  let v891 : BitVec 32 := Scalar.addi v890 c1_i32_534
  let c0_i32_537 : BitVec 32 := 0#32
  ![v891.toNat, 0]
def k0_off167 (v901 : BitVec 32) : Fin 2 → Nat :=
  let c0_i32_542 : BitVec 32 := 0#32
  ![v901.toNat, 0]

def k0_chk70 (v901 : BitVec 32) : Prop :=
  (∀ a, (k0_off167 v901) a + S1x64.size a ≤ S1000000x64.size a)
instance k0_chk70.dec : ∀ (v901 : BitVec 32), Decidable (k0_chk70 v901) := fun v901 => decidable_of_iff' _ (Iff.of_eq (k0_chk70.eq_1 v901))
theorem k0_off167_inb : ∀ (v901 : BitVec 32) (k0_hw70 : k0_chk70 v901), ∀ a, (k0_off167 v901) a + S1x64.size a ≤ S1000000x64.size a := fun v901 k0_hw70 => k0_hw70

def k0_off168 (k0_t1 : Fin k0_t1_loop.trips) (c2_i32_540 : BitVec 32) : Fin 2 → Nat :=
  let c0_i32_0 : BitVec 32 := 0#32
  let c1_i32 : BitVec 32 := 1#32
  let arg13 : BitVec 32 := Scf.iv c0_i32_0 c1_i32 k0_t1
  let c16_i32_522 : BitVec 32 := 16#32
  let v864 : BitVec 32 := Scalar.muli arg13 c16_i32_522
  let c11_i32 : BitVec 32 := 11#32
  let v865 : BitVec 32 := Scalar.addi v864 c11_i32
  let c5_i32_539 : BitVec 32 := 5#32
  let v902 : BitVec 32 := Scalar.muli v865 c5_i32_539
  let v903 : BitVec 32 := Scalar.addi v902 c2_i32_540
  let c0_i32_543 : BitVec 32 := 0#32
  ![v903.toNat, 0]
def k0_off169 (v913 : BitVec 32) : Fin 2 → Nat :=
  let c0_i32_548 : BitVec 32 := 0#32
  ![v913.toNat, 0]

def k0_chk71 (v913 : BitVec 32) : Prop :=
  (∀ a, (k0_off169 v913) a + S1x64.size a ≤ S1000000x64.size a)
instance k0_chk71.dec : ∀ (v913 : BitVec 32), Decidable (k0_chk71 v913) := fun v913 => decidable_of_iff' _ (Iff.of_eq (k0_chk71.eq_1 v913))
theorem k0_off169_inb : ∀ (v913 : BitVec 32) (k0_hw71 : k0_chk71 v913), ∀ a, (k0_off169 v913) a + S1x64.size a ≤ S1000000x64.size a := fun v913 k0_hw71 => k0_hw71

def k0_off170 (k0_t1 : Fin k0_t1_loop.trips) (c3_i32_546 : BitVec 32) : Fin 2 → Nat :=
  let c0_i32_0 : BitVec 32 := 0#32
  let c1_i32 : BitVec 32 := 1#32
  let arg13 : BitVec 32 := Scf.iv c0_i32_0 c1_i32 k0_t1
  let c16_i32_522 : BitVec 32 := 16#32
  let v864 : BitVec 32 := Scalar.muli arg13 c16_i32_522
  let c11_i32 : BitVec 32 := 11#32
  let v865 : BitVec 32 := Scalar.addi v864 c11_i32
  let c5_i32_545 : BitVec 32 := 5#32
  let v914 : BitVec 32 := Scalar.muli v865 c5_i32_545
  let v915 : BitVec 32 := Scalar.addi v914 c3_i32_546
  let c0_i32_549 : BitVec 32 := 0#32
  ![v915.toNat, 0]
def k0_off171 (v925 : BitVec 32) : Fin 2 → Nat :=
  let c0_i32_554 : BitVec 32 := 0#32
  ![v925.toNat, 0]

def k0_chk72 (v925 : BitVec 32) : Prop :=
  (∀ a, (k0_off171 v925) a + S1x64.size a ≤ S1000000x64.size a)
instance k0_chk72.dec : ∀ (v925 : BitVec 32), Decidable (k0_chk72 v925) := fun v925 => decidable_of_iff' _ (Iff.of_eq (k0_chk72.eq_1 v925))
theorem k0_off171_inb : ∀ (v925 : BitVec 32) (k0_hw72 : k0_chk72 v925), ∀ a, (k0_off171 v925) a + S1x64.size a ≤ S1000000x64.size a := fun v925 k0_hw72 => k0_hw72

def k0_off172 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_522 : BitVec 32 := 16#32
  let v864 : BitVec 32 := Scalar.muli arg13 c16_i32_522
  let c11_i32 : BitVec 32 := 11#32
  let v865 : BitVec 32 := Scalar.addi v864 c11_i32
  let c5_i32_551 : BitVec 32 := 5#32
  let v926 : BitVec 32 := Scalar.muli v865 c5_i32_551
  let c4_i32_552 : BitVec 32 := 4#32
  let v927 : BitVec 32 := Scalar.addi v926 c4_i32_552
  let c0_i32_555 : BitVec 32 := 0#32
  ![v927.toNat, 0]
def k0_off173 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_557 : BitVec 32 := 16#32
  let v936 : BitVec 32 := Scalar.muli arg13 c16_i32_557
  let c12_i32 : BitVec 32 := 12#32
  let v937 : BitVec 32 := Scalar.addi v936 c12_i32
  let c0_i32_558 : BitVec 32 := 0#32
  ![v937.toNat, 0]
def k0_off174 (v939 : BitVec 32) : Fin 2 → Nat :=
  let c0_i32_559 : BitVec 32 := 0#32
  ![v939.toNat, 0]

def k0_chk73 (v939 : BitVec 32) : Prop :=
  (∀ a, (k0_off174 v939) a + S1x64.size a ≤ S1000000x64.size a)
instance k0_chk73.dec : ∀ (v939 : BitVec 32), Decidable (k0_chk73 v939) := fun v939 => decidable_of_iff' _ (Iff.of_eq (k0_chk73.eq_1 v939))
theorem k0_off174_inb : ∀ (v939 : BitVec 32) (k0_hw73 : k0_chk73 v939), ∀ a, (k0_off174 v939) a + S1x64.size a ≤ S1000000x64.size a := fun v939 k0_hw73 => k0_hw73

def k0_off175 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_557 : BitVec 32 := 16#32
  let v936 : BitVec 32 := Scalar.muli arg13 c16_i32_557
  let c12_i32 : BitVec 32 := 12#32
  let v937 : BitVec 32 := Scalar.addi v936 c12_i32
  let c0_i32_560 : BitVec 32 := 0#32
  ![v937.toNat, 0]
def k0_off176 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_557 : BitVec 32 := 16#32
  let v936 : BitVec 32 := Scalar.muli arg13 c16_i32_557
  let c12_i32 : BitVec 32 := 12#32
  let v937 : BitVec 32 := Scalar.addi v936 c12_i32
  let c5_i32_562 : BitVec 32 := 5#32
  let v950 : BitVec 32 := Scalar.muli v937 c5_i32_562
  let c0_i32_563 : BitVec 32 := 0#32
  let v951 : BitVec 32 := Scalar.addi v950 c0_i32_563
  let c0_i32_564 : BitVec 32 := 0#32
  ![v951.toNat, 0]
def k0_off177 (v949 : BitVec 32) : Fin 2 → Nat :=
  let c0_i32_565 : BitVec 32 := 0#32
  ![v949.toNat, 0]

def k0_chk74 (v949 : BitVec 32) : Prop :=
  (∀ a, (k0_off177 v949) a + S1x64.size a ≤ S1000000x64.size a)
instance k0_chk74.dec : ∀ (v949 : BitVec 32), Decidable (k0_chk74 v949) := fun v949 => decidable_of_iff' _ (Iff.of_eq (k0_chk74.eq_1 v949))
theorem k0_off177_inb : ∀ (v949 : BitVec 32) (k0_hw74 : k0_chk74 v949), ∀ a, (k0_off177 v949) a + S1x64.size a ≤ S1000000x64.size a := fun v949 k0_hw74 => k0_hw74

def k0_off178 (k0_t1 : Fin k0_t1_loop.trips) (c0_i32_563 : BitVec 32) : Fin 2 → Nat :=
  let c0_i32_0 : BitVec 32 := 0#32
  let c1_i32 : BitVec 32 := 1#32
  let arg13 : BitVec 32 := Scf.iv c0_i32_0 c1_i32 k0_t1
  let c16_i32_557 : BitVec 32 := 16#32
  let v936 : BitVec 32 := Scalar.muli arg13 c16_i32_557
  let c12_i32 : BitVec 32 := 12#32
  let v937 : BitVec 32 := Scalar.addi v936 c12_i32
  let c5_i32_562 : BitVec 32 := 5#32
  let v950 : BitVec 32 := Scalar.muli v937 c5_i32_562
  let v951 : BitVec 32 := Scalar.addi v950 c0_i32_563
  let c0_i32_566 : BitVec 32 := 0#32
  ![v951.toNat, 0]
def k0_off179 (v961 : BitVec 32) : Fin 2 → Nat :=
  let c0_i32_571 : BitVec 32 := 0#32
  ![v961.toNat, 0]

def k0_chk75 (v961 : BitVec 32) : Prop :=
  (∀ a, (k0_off179 v961) a + S1x64.size a ≤ S1000000x64.size a)
instance k0_chk75.dec : ∀ (v961 : BitVec 32), Decidable (k0_chk75 v961) := fun v961 => decidable_of_iff' _ (Iff.of_eq (k0_chk75.eq_1 v961))
theorem k0_off179_inb : ∀ (v961 : BitVec 32) (k0_hw75 : k0_chk75 v961), ∀ a, (k0_off179 v961) a + S1x64.size a ≤ S1000000x64.size a := fun v961 k0_hw75 => k0_hw75

def k0_off180 (k0_t1 : Fin k0_t1_loop.trips) (c1_i32_569 : BitVec 32) : Fin 2 → Nat :=
  let c0_i32_0 : BitVec 32 := 0#32
  let c1_i32 : BitVec 32 := 1#32
  let arg13 : BitVec 32 := Scf.iv c0_i32_0 c1_i32 k0_t1
  let c16_i32_557 : BitVec 32 := 16#32
  let v936 : BitVec 32 := Scalar.muli arg13 c16_i32_557
  let c12_i32 : BitVec 32 := 12#32
  let v937 : BitVec 32 := Scalar.addi v936 c12_i32
  let c5_i32_568 : BitVec 32 := 5#32
  let v962 : BitVec 32 := Scalar.muli v937 c5_i32_568
  let v963 : BitVec 32 := Scalar.addi v962 c1_i32_569
  let c0_i32_572 : BitVec 32 := 0#32
  ![v963.toNat, 0]
def k0_off181 (v973 : BitVec 32) : Fin 2 → Nat :=
  let c0_i32_577 : BitVec 32 := 0#32
  ![v973.toNat, 0]

def k0_chk76 (v973 : BitVec 32) : Prop :=
  (∀ a, (k0_off181 v973) a + S1x64.size a ≤ S1000000x64.size a)
instance k0_chk76.dec : ∀ (v973 : BitVec 32), Decidable (k0_chk76 v973) := fun v973 => decidable_of_iff' _ (Iff.of_eq (k0_chk76.eq_1 v973))
theorem k0_off181_inb : ∀ (v973 : BitVec 32) (k0_hw76 : k0_chk76 v973), ∀ a, (k0_off181 v973) a + S1x64.size a ≤ S1000000x64.size a := fun v973 k0_hw76 => k0_hw76

def k0_off182 (k0_t1 : Fin k0_t1_loop.trips) (c2_i32_575 : BitVec 32) : Fin 2 → Nat :=
  let c0_i32_0 : BitVec 32 := 0#32
  let c1_i32 : BitVec 32 := 1#32
  let arg13 : BitVec 32 := Scf.iv c0_i32_0 c1_i32 k0_t1
  let c16_i32_557 : BitVec 32 := 16#32
  let v936 : BitVec 32 := Scalar.muli arg13 c16_i32_557
  let c12_i32 : BitVec 32 := 12#32
  let v937 : BitVec 32 := Scalar.addi v936 c12_i32
  let c5_i32_574 : BitVec 32 := 5#32
  let v974 : BitVec 32 := Scalar.muli v937 c5_i32_574
  let v975 : BitVec 32 := Scalar.addi v974 c2_i32_575
  let c0_i32_578 : BitVec 32 := 0#32
  ![v975.toNat, 0]
def k0_off183 (v985 : BitVec 32) : Fin 2 → Nat :=
  let c0_i32_583 : BitVec 32 := 0#32
  ![v985.toNat, 0]

def k0_chk77 (v985 : BitVec 32) : Prop :=
  (∀ a, (k0_off183 v985) a + S1x64.size a ≤ S1000000x64.size a)
instance k0_chk77.dec : ∀ (v985 : BitVec 32), Decidable (k0_chk77 v985) := fun v985 => decidable_of_iff' _ (Iff.of_eq (k0_chk77.eq_1 v985))
theorem k0_off183_inb : ∀ (v985 : BitVec 32) (k0_hw77 : k0_chk77 v985), ∀ a, (k0_off183 v985) a + S1x64.size a ≤ S1000000x64.size a := fun v985 k0_hw77 => k0_hw77

def k0_off184 (k0_t1 : Fin k0_t1_loop.trips) (c3_i32_581 : BitVec 32) : Fin 2 → Nat :=
  let c0_i32_0 : BitVec 32 := 0#32
  let c1_i32 : BitVec 32 := 1#32
  let arg13 : BitVec 32 := Scf.iv c0_i32_0 c1_i32 k0_t1
  let c16_i32_557 : BitVec 32 := 16#32
  let v936 : BitVec 32 := Scalar.muli arg13 c16_i32_557
  let c12_i32 : BitVec 32 := 12#32
  let v937 : BitVec 32 := Scalar.addi v936 c12_i32
  let c5_i32_580 : BitVec 32 := 5#32
  let v986 : BitVec 32 := Scalar.muli v937 c5_i32_580
  let v987 : BitVec 32 := Scalar.addi v986 c3_i32_581
  let c0_i32_584 : BitVec 32 := 0#32
  ![v987.toNat, 0]
def k0_off185 (v997 : BitVec 32) : Fin 2 → Nat :=
  let c0_i32_589 : BitVec 32 := 0#32
  ![v997.toNat, 0]

def k0_chk78 (v997 : BitVec 32) : Prop :=
  (∀ a, (k0_off185 v997) a + S1x64.size a ≤ S1000000x64.size a)
instance k0_chk78.dec : ∀ (v997 : BitVec 32), Decidable (k0_chk78 v997) := fun v997 => decidable_of_iff' _ (Iff.of_eq (k0_chk78.eq_1 v997))
theorem k0_off185_inb : ∀ (v997 : BitVec 32) (k0_hw78 : k0_chk78 v997), ∀ a, (k0_off185 v997) a + S1x64.size a ≤ S1000000x64.size a := fun v997 k0_hw78 => k0_hw78

def k0_off186 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_557 : BitVec 32 := 16#32
  let v936 : BitVec 32 := Scalar.muli arg13 c16_i32_557
  let c12_i32 : BitVec 32 := 12#32
  let v937 : BitVec 32 := Scalar.addi v936 c12_i32
  let c5_i32_586 : BitVec 32 := 5#32
  let v998 : BitVec 32 := Scalar.muli v937 c5_i32_586
  let c4_i32_587 : BitVec 32 := 4#32
  let v999 : BitVec 32 := Scalar.addi v998 c4_i32_587
  let c0_i32_590 : BitVec 32 := 0#32
  ![v999.toNat, 0]
def k0_off187 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_592 : BitVec 32 := 16#32
  let v1008 : BitVec 32 := Scalar.muli arg13 c16_i32_592
  let c13_i32 : BitVec 32 := 13#32
  let v1009 : BitVec 32 := Scalar.addi v1008 c13_i32
  let c0_i32_593 : BitVec 32 := 0#32
  ![v1009.toNat, 0]
def k0_off188 (v1011 : BitVec 32) : Fin 2 → Nat :=
  let c0_i32_594 : BitVec 32 := 0#32
  ![v1011.toNat, 0]

def k0_chk79 (v1011 : BitVec 32) : Prop :=
  (∀ a, (k0_off188 v1011) a + S1x64.size a ≤ S1000000x64.size a)
instance k0_chk79.dec : ∀ (v1011 : BitVec 32), Decidable (k0_chk79 v1011) := fun v1011 => decidable_of_iff' _ (Iff.of_eq (k0_chk79.eq_1 v1011))
theorem k0_off188_inb : ∀ (v1011 : BitVec 32) (k0_hw79 : k0_chk79 v1011), ∀ a, (k0_off188 v1011) a + S1x64.size a ≤ S1000000x64.size a := fun v1011 k0_hw79 => k0_hw79

def k0_off189 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_592 : BitVec 32 := 16#32
  let v1008 : BitVec 32 := Scalar.muli arg13 c16_i32_592
  let c13_i32 : BitVec 32 := 13#32
  let v1009 : BitVec 32 := Scalar.addi v1008 c13_i32
  let c0_i32_595 : BitVec 32 := 0#32
  ![v1009.toNat, 0]
def k0_off190 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_592 : BitVec 32 := 16#32
  let v1008 : BitVec 32 := Scalar.muli arg13 c16_i32_592
  let c13_i32 : BitVec 32 := 13#32
  let v1009 : BitVec 32 := Scalar.addi v1008 c13_i32
  let c5_i32_597 : BitVec 32 := 5#32
  let v1022 : BitVec 32 := Scalar.muli v1009 c5_i32_597
  let c0_i32_598 : BitVec 32 := 0#32
  let v1023 : BitVec 32 := Scalar.addi v1022 c0_i32_598
  let c0_i32_599 : BitVec 32 := 0#32
  ![v1023.toNat, 0]
def k0_off191 (v1021 : BitVec 32) : Fin 2 → Nat :=
  let c0_i32_600 : BitVec 32 := 0#32
  ![v1021.toNat, 0]

def k0_chk80 (v1021 : BitVec 32) : Prop :=
  (∀ a, (k0_off191 v1021) a + S1x64.size a ≤ S1000000x64.size a)
instance k0_chk80.dec : ∀ (v1021 : BitVec 32), Decidable (k0_chk80 v1021) := fun v1021 => decidable_of_iff' _ (Iff.of_eq (k0_chk80.eq_1 v1021))
theorem k0_off191_inb : ∀ (v1021 : BitVec 32) (k0_hw80 : k0_chk80 v1021), ∀ a, (k0_off191 v1021) a + S1x64.size a ≤ S1000000x64.size a := fun v1021 k0_hw80 => k0_hw80

def k0_off192 (k0_t1 : Fin k0_t1_loop.trips) (c0_i32_598 : BitVec 32) : Fin 2 → Nat :=
  let c0_i32_0 : BitVec 32 := 0#32
  let c1_i32 : BitVec 32 := 1#32
  let arg13 : BitVec 32 := Scf.iv c0_i32_0 c1_i32 k0_t1
  let c16_i32_592 : BitVec 32 := 16#32
  let v1008 : BitVec 32 := Scalar.muli arg13 c16_i32_592
  let c13_i32 : BitVec 32 := 13#32
  let v1009 : BitVec 32 := Scalar.addi v1008 c13_i32
  let c5_i32_597 : BitVec 32 := 5#32
  let v1022 : BitVec 32 := Scalar.muli v1009 c5_i32_597
  let v1023 : BitVec 32 := Scalar.addi v1022 c0_i32_598
  let c0_i32_601 : BitVec 32 := 0#32
  ![v1023.toNat, 0]
def k0_off193 (v1033 : BitVec 32) : Fin 2 → Nat :=
  let c0_i32_606 : BitVec 32 := 0#32
  ![v1033.toNat, 0]

def k0_chk81 (v1033 : BitVec 32) : Prop :=
  (∀ a, (k0_off193 v1033) a + S1x64.size a ≤ S1000000x64.size a)
instance k0_chk81.dec : ∀ (v1033 : BitVec 32), Decidable (k0_chk81 v1033) := fun v1033 => decidable_of_iff' _ (Iff.of_eq (k0_chk81.eq_1 v1033))
theorem k0_off193_inb : ∀ (v1033 : BitVec 32) (k0_hw81 : k0_chk81 v1033), ∀ a, (k0_off193 v1033) a + S1x64.size a ≤ S1000000x64.size a := fun v1033 k0_hw81 => k0_hw81

def k0_off194 (k0_t1 : Fin k0_t1_loop.trips) (c1_i32_604 : BitVec 32) : Fin 2 → Nat :=
  let c0_i32_0 : BitVec 32 := 0#32
  let c1_i32 : BitVec 32 := 1#32
  let arg13 : BitVec 32 := Scf.iv c0_i32_0 c1_i32 k0_t1
  let c16_i32_592 : BitVec 32 := 16#32
  let v1008 : BitVec 32 := Scalar.muli arg13 c16_i32_592
  let c13_i32 : BitVec 32 := 13#32
  let v1009 : BitVec 32 := Scalar.addi v1008 c13_i32
  let c5_i32_603 : BitVec 32 := 5#32
  let v1034 : BitVec 32 := Scalar.muli v1009 c5_i32_603
  let v1035 : BitVec 32 := Scalar.addi v1034 c1_i32_604
  let c0_i32_607 : BitVec 32 := 0#32
  ![v1035.toNat, 0]
def k0_off195 (v1045 : BitVec 32) : Fin 2 → Nat :=
  let c0_i32_612 : BitVec 32 := 0#32
  ![v1045.toNat, 0]

def k0_chk82 (v1045 : BitVec 32) : Prop :=
  (∀ a, (k0_off195 v1045) a + S1x64.size a ≤ S1000000x64.size a)
instance k0_chk82.dec : ∀ (v1045 : BitVec 32), Decidable (k0_chk82 v1045) := fun v1045 => decidable_of_iff' _ (Iff.of_eq (k0_chk82.eq_1 v1045))
theorem k0_off195_inb : ∀ (v1045 : BitVec 32) (k0_hw82 : k0_chk82 v1045), ∀ a, (k0_off195 v1045) a + S1x64.size a ≤ S1000000x64.size a := fun v1045 k0_hw82 => k0_hw82

def k0_off196 (k0_t1 : Fin k0_t1_loop.trips) (c2_i32_610 : BitVec 32) : Fin 2 → Nat :=
  let c0_i32_0 : BitVec 32 := 0#32
  let c1_i32 : BitVec 32 := 1#32
  let arg13 : BitVec 32 := Scf.iv c0_i32_0 c1_i32 k0_t1
  let c16_i32_592 : BitVec 32 := 16#32
  let v1008 : BitVec 32 := Scalar.muli arg13 c16_i32_592
  let c13_i32 : BitVec 32 := 13#32
  let v1009 : BitVec 32 := Scalar.addi v1008 c13_i32
  let c5_i32_609 : BitVec 32 := 5#32
  let v1046 : BitVec 32 := Scalar.muli v1009 c5_i32_609
  let v1047 : BitVec 32 := Scalar.addi v1046 c2_i32_610
  let c0_i32_613 : BitVec 32 := 0#32
  ![v1047.toNat, 0]
def k0_off197 (v1057 : BitVec 32) : Fin 2 → Nat :=
  let c0_i32_618 : BitVec 32 := 0#32
  ![v1057.toNat, 0]

def k0_chk83 (v1057 : BitVec 32) : Prop :=
  (∀ a, (k0_off197 v1057) a + S1x64.size a ≤ S1000000x64.size a)
instance k0_chk83.dec : ∀ (v1057 : BitVec 32), Decidable (k0_chk83 v1057) := fun v1057 => decidable_of_iff' _ (Iff.of_eq (k0_chk83.eq_1 v1057))
theorem k0_off197_inb : ∀ (v1057 : BitVec 32) (k0_hw83 : k0_chk83 v1057), ∀ a, (k0_off197 v1057) a + S1x64.size a ≤ S1000000x64.size a := fun v1057 k0_hw83 => k0_hw83

def k0_off198 (k0_t1 : Fin k0_t1_loop.trips) (c3_i32_616 : BitVec 32) : Fin 2 → Nat :=
  let c0_i32_0 : BitVec 32 := 0#32
  let c1_i32 : BitVec 32 := 1#32
  let arg13 : BitVec 32 := Scf.iv c0_i32_0 c1_i32 k0_t1
  let c16_i32_592 : BitVec 32 := 16#32
  let v1008 : BitVec 32 := Scalar.muli arg13 c16_i32_592
  let c13_i32 : BitVec 32 := 13#32
  let v1009 : BitVec 32 := Scalar.addi v1008 c13_i32
  let c5_i32_615 : BitVec 32 := 5#32
  let v1058 : BitVec 32 := Scalar.muli v1009 c5_i32_615
  let v1059 : BitVec 32 := Scalar.addi v1058 c3_i32_616
  let c0_i32_619 : BitVec 32 := 0#32
  ![v1059.toNat, 0]
def k0_off199 (v1069 : BitVec 32) : Fin 2 → Nat :=
  let c0_i32_624 : BitVec 32 := 0#32
  ![v1069.toNat, 0]

def k0_chk84 (v1069 : BitVec 32) : Prop :=
  (∀ a, (k0_off199 v1069) a + S1x64.size a ≤ S1000000x64.size a)
instance k0_chk84.dec : ∀ (v1069 : BitVec 32), Decidable (k0_chk84 v1069) := fun v1069 => decidable_of_iff' _ (Iff.of_eq (k0_chk84.eq_1 v1069))
theorem k0_off199_inb : ∀ (v1069 : BitVec 32) (k0_hw84 : k0_chk84 v1069), ∀ a, (k0_off199 v1069) a + S1x64.size a ≤ S1000000x64.size a := fun v1069 k0_hw84 => k0_hw84

def k0_off200 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_592 : BitVec 32 := 16#32
  let v1008 : BitVec 32 := Scalar.muli arg13 c16_i32_592
  let c13_i32 : BitVec 32 := 13#32
  let v1009 : BitVec 32 := Scalar.addi v1008 c13_i32
  let c5_i32_621 : BitVec 32 := 5#32
  let v1070 : BitVec 32 := Scalar.muli v1009 c5_i32_621
  let c4_i32_622 : BitVec 32 := 4#32
  let v1071 : BitVec 32 := Scalar.addi v1070 c4_i32_622
  let c0_i32_625 : BitVec 32 := 0#32
  ![v1071.toNat, 0]
def k0_off201 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_627 : BitVec 32 := 16#32
  let v1080 : BitVec 32 := Scalar.muli arg13 c16_i32_627
  let c14_i32 : BitVec 32 := 14#32
  let v1081 : BitVec 32 := Scalar.addi v1080 c14_i32
  let c0_i32_628 : BitVec 32 := 0#32
  ![v1081.toNat, 0]
def k0_off202 (v1083 : BitVec 32) : Fin 2 → Nat :=
  let c0_i32_629 : BitVec 32 := 0#32
  ![v1083.toNat, 0]

def k0_chk85 (v1083 : BitVec 32) : Prop :=
  (∀ a, (k0_off202 v1083) a + S1x64.size a ≤ S1000000x64.size a)
instance k0_chk85.dec : ∀ (v1083 : BitVec 32), Decidable (k0_chk85 v1083) := fun v1083 => decidable_of_iff' _ (Iff.of_eq (k0_chk85.eq_1 v1083))
theorem k0_off202_inb : ∀ (v1083 : BitVec 32) (k0_hw85 : k0_chk85 v1083), ∀ a, (k0_off202 v1083) a + S1x64.size a ≤ S1000000x64.size a := fun v1083 k0_hw85 => k0_hw85

def k0_off203 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_627 : BitVec 32 := 16#32
  let v1080 : BitVec 32 := Scalar.muli arg13 c16_i32_627
  let c14_i32 : BitVec 32 := 14#32
  let v1081 : BitVec 32 := Scalar.addi v1080 c14_i32
  let c0_i32_630 : BitVec 32 := 0#32
  ![v1081.toNat, 0]
def k0_off204 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_627 : BitVec 32 := 16#32
  let v1080 : BitVec 32 := Scalar.muli arg13 c16_i32_627
  let c14_i32 : BitVec 32 := 14#32
  let v1081 : BitVec 32 := Scalar.addi v1080 c14_i32
  let c5_i32_632 : BitVec 32 := 5#32
  let v1094 : BitVec 32 := Scalar.muli v1081 c5_i32_632
  let c0_i32_633 : BitVec 32 := 0#32
  let v1095 : BitVec 32 := Scalar.addi v1094 c0_i32_633
  let c0_i32_634 : BitVec 32 := 0#32
  ![v1095.toNat, 0]
def k0_off205 (v1093 : BitVec 32) : Fin 2 → Nat :=
  let c0_i32_635 : BitVec 32 := 0#32
  ![v1093.toNat, 0]

def k0_chk86 (v1093 : BitVec 32) : Prop :=
  (∀ a, (k0_off205 v1093) a + S1x64.size a ≤ S1000000x64.size a)
instance k0_chk86.dec : ∀ (v1093 : BitVec 32), Decidable (k0_chk86 v1093) := fun v1093 => decidable_of_iff' _ (Iff.of_eq (k0_chk86.eq_1 v1093))
theorem k0_off205_inb : ∀ (v1093 : BitVec 32) (k0_hw86 : k0_chk86 v1093), ∀ a, (k0_off205 v1093) a + S1x64.size a ≤ S1000000x64.size a := fun v1093 k0_hw86 => k0_hw86

def k0_off206 (k0_t1 : Fin k0_t1_loop.trips) (c0_i32_633 : BitVec 32) : Fin 2 → Nat :=
  let c0_i32_0 : BitVec 32 := 0#32
  let c1_i32 : BitVec 32 := 1#32
  let arg13 : BitVec 32 := Scf.iv c0_i32_0 c1_i32 k0_t1
  let c16_i32_627 : BitVec 32 := 16#32
  let v1080 : BitVec 32 := Scalar.muli arg13 c16_i32_627
  let c14_i32 : BitVec 32 := 14#32
  let v1081 : BitVec 32 := Scalar.addi v1080 c14_i32
  let c5_i32_632 : BitVec 32 := 5#32
  let v1094 : BitVec 32 := Scalar.muli v1081 c5_i32_632
  let v1095 : BitVec 32 := Scalar.addi v1094 c0_i32_633
  let c0_i32_636 : BitVec 32 := 0#32
  ![v1095.toNat, 0]
def k0_off207 (v1105 : BitVec 32) : Fin 2 → Nat :=
  let c0_i32_641 : BitVec 32 := 0#32
  ![v1105.toNat, 0]

def k0_chk87 (v1105 : BitVec 32) : Prop :=
  (∀ a, (k0_off207 v1105) a + S1x64.size a ≤ S1000000x64.size a)
instance k0_chk87.dec : ∀ (v1105 : BitVec 32), Decidable (k0_chk87 v1105) := fun v1105 => decidable_of_iff' _ (Iff.of_eq (k0_chk87.eq_1 v1105))
theorem k0_off207_inb : ∀ (v1105 : BitVec 32) (k0_hw87 : k0_chk87 v1105), ∀ a, (k0_off207 v1105) a + S1x64.size a ≤ S1000000x64.size a := fun v1105 k0_hw87 => k0_hw87

def k0_off208 (k0_t1 : Fin k0_t1_loop.trips) (c1_i32_639 : BitVec 32) : Fin 2 → Nat :=
  let c0_i32_0 : BitVec 32 := 0#32
  let c1_i32 : BitVec 32 := 1#32
  let arg13 : BitVec 32 := Scf.iv c0_i32_0 c1_i32 k0_t1
  let c16_i32_627 : BitVec 32 := 16#32
  let v1080 : BitVec 32 := Scalar.muli arg13 c16_i32_627
  let c14_i32 : BitVec 32 := 14#32
  let v1081 : BitVec 32 := Scalar.addi v1080 c14_i32
  let c5_i32_638 : BitVec 32 := 5#32
  let v1106 : BitVec 32 := Scalar.muli v1081 c5_i32_638
  let v1107 : BitVec 32 := Scalar.addi v1106 c1_i32_639
  let c0_i32_642 : BitVec 32 := 0#32
  ![v1107.toNat, 0]
def k0_off209 (v1117 : BitVec 32) : Fin 2 → Nat :=
  let c0_i32_647 : BitVec 32 := 0#32
  ![v1117.toNat, 0]

def k0_chk88 (v1117 : BitVec 32) : Prop :=
  (∀ a, (k0_off209 v1117) a + S1x64.size a ≤ S1000000x64.size a)
instance k0_chk88.dec : ∀ (v1117 : BitVec 32), Decidable (k0_chk88 v1117) := fun v1117 => decidable_of_iff' _ (Iff.of_eq (k0_chk88.eq_1 v1117))
theorem k0_off209_inb : ∀ (v1117 : BitVec 32) (k0_hw88 : k0_chk88 v1117), ∀ a, (k0_off209 v1117) a + S1x64.size a ≤ S1000000x64.size a := fun v1117 k0_hw88 => k0_hw88

def k0_off210 (k0_t1 : Fin k0_t1_loop.trips) (c2_i32_645 : BitVec 32) : Fin 2 → Nat :=
  let c0_i32_0 : BitVec 32 := 0#32
  let c1_i32 : BitVec 32 := 1#32
  let arg13 : BitVec 32 := Scf.iv c0_i32_0 c1_i32 k0_t1
  let c16_i32_627 : BitVec 32 := 16#32
  let v1080 : BitVec 32 := Scalar.muli arg13 c16_i32_627
  let c14_i32 : BitVec 32 := 14#32
  let v1081 : BitVec 32 := Scalar.addi v1080 c14_i32
  let c5_i32_644 : BitVec 32 := 5#32
  let v1118 : BitVec 32 := Scalar.muli v1081 c5_i32_644
  let v1119 : BitVec 32 := Scalar.addi v1118 c2_i32_645
  let c0_i32_648 : BitVec 32 := 0#32
  ![v1119.toNat, 0]
def k0_off211 (v1129 : BitVec 32) : Fin 2 → Nat :=
  let c0_i32_653 : BitVec 32 := 0#32
  ![v1129.toNat, 0]

def k0_chk89 (v1129 : BitVec 32) : Prop :=
  (∀ a, (k0_off211 v1129) a + S1x64.size a ≤ S1000000x64.size a)
instance k0_chk89.dec : ∀ (v1129 : BitVec 32), Decidable (k0_chk89 v1129) := fun v1129 => decidable_of_iff' _ (Iff.of_eq (k0_chk89.eq_1 v1129))
theorem k0_off211_inb : ∀ (v1129 : BitVec 32) (k0_hw89 : k0_chk89 v1129), ∀ a, (k0_off211 v1129) a + S1x64.size a ≤ S1000000x64.size a := fun v1129 k0_hw89 => k0_hw89

def k0_off212 (k0_t1 : Fin k0_t1_loop.trips) (c3_i32_651 : BitVec 32) : Fin 2 → Nat :=
  let c0_i32_0 : BitVec 32 := 0#32
  let c1_i32 : BitVec 32 := 1#32
  let arg13 : BitVec 32 := Scf.iv c0_i32_0 c1_i32 k0_t1
  let c16_i32_627 : BitVec 32 := 16#32
  let v1080 : BitVec 32 := Scalar.muli arg13 c16_i32_627
  let c14_i32 : BitVec 32 := 14#32
  let v1081 : BitVec 32 := Scalar.addi v1080 c14_i32
  let c5_i32_650 : BitVec 32 := 5#32
  let v1130 : BitVec 32 := Scalar.muli v1081 c5_i32_650
  let v1131 : BitVec 32 := Scalar.addi v1130 c3_i32_651
  let c0_i32_654 : BitVec 32 := 0#32
  ![v1131.toNat, 0]
def k0_off213 (v1141 : BitVec 32) : Fin 2 → Nat :=
  let c0_i32_659 : BitVec 32 := 0#32
  ![v1141.toNat, 0]

def k0_chk90 (v1141 : BitVec 32) : Prop :=
  (∀ a, (k0_off213 v1141) a + S1x64.size a ≤ S1000000x64.size a)
instance k0_chk90.dec : ∀ (v1141 : BitVec 32), Decidable (k0_chk90 v1141) := fun v1141 => decidable_of_iff' _ (Iff.of_eq (k0_chk90.eq_1 v1141))
theorem k0_off213_inb : ∀ (v1141 : BitVec 32) (k0_hw90 : k0_chk90 v1141), ∀ a, (k0_off213 v1141) a + S1x64.size a ≤ S1000000x64.size a := fun v1141 k0_hw90 => k0_hw90

def k0_off214 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_627 : BitVec 32 := 16#32
  let v1080 : BitVec 32 := Scalar.muli arg13 c16_i32_627
  let c14_i32 : BitVec 32 := 14#32
  let v1081 : BitVec 32 := Scalar.addi v1080 c14_i32
  let c5_i32_656 : BitVec 32 := 5#32
  let v1142 : BitVec 32 := Scalar.muli v1081 c5_i32_656
  let c4_i32_657 : BitVec 32 := 4#32
  let v1143 : BitVec 32 := Scalar.addi v1142 c4_i32_657
  let c0_i32_660 : BitVec 32 := 0#32
  ![v1143.toNat, 0]
def k0_off215 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_662 : BitVec 32 := 16#32
  let v1152 : BitVec 32 := Scalar.muli arg13 c16_i32_662
  let c15_i32 : BitVec 32 := 15#32
  let v1153 : BitVec 32 := Scalar.addi v1152 c15_i32
  let c0_i32_663 : BitVec 32 := 0#32
  ![v1153.toNat, 0]
def k0_off216 (v1155 : BitVec 32) : Fin 2 → Nat :=
  let c0_i32_664 : BitVec 32 := 0#32
  ![v1155.toNat, 0]

def k0_chk91 (v1155 : BitVec 32) : Prop :=
  (∀ a, (k0_off216 v1155) a + S1x64.size a ≤ S1000000x64.size a)
instance k0_chk91.dec : ∀ (v1155 : BitVec 32), Decidable (k0_chk91 v1155) := fun v1155 => decidable_of_iff' _ (Iff.of_eq (k0_chk91.eq_1 v1155))
theorem k0_off216_inb : ∀ (v1155 : BitVec 32) (k0_hw91 : k0_chk91 v1155), ∀ a, (k0_off216 v1155) a + S1x64.size a ≤ S1000000x64.size a := fun v1155 k0_hw91 => k0_hw91

def k0_off217 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_662 : BitVec 32 := 16#32
  let v1152 : BitVec 32 := Scalar.muli arg13 c16_i32_662
  let c15_i32 : BitVec 32 := 15#32
  let v1153 : BitVec 32 := Scalar.addi v1152 c15_i32
  let c0_i32_665 : BitVec 32 := 0#32
  ![v1153.toNat, 0]
def k0_off218 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_662 : BitVec 32 := 16#32
  let v1152 : BitVec 32 := Scalar.muli arg13 c16_i32_662
  let c15_i32 : BitVec 32 := 15#32
  let v1153 : BitVec 32 := Scalar.addi v1152 c15_i32
  let c5_i32_667 : BitVec 32 := 5#32
  let v1166 : BitVec 32 := Scalar.muli v1153 c5_i32_667
  let c0_i32_668 : BitVec 32 := 0#32
  let v1167 : BitVec 32 := Scalar.addi v1166 c0_i32_668
  let c0_i32_669 : BitVec 32 := 0#32
  ![v1167.toNat, 0]
def k0_off219 (v1165 : BitVec 32) : Fin 2 → Nat :=
  let c0_i32_670 : BitVec 32 := 0#32
  ![v1165.toNat, 0]

def k0_chk92 (v1165 : BitVec 32) : Prop :=
  (∀ a, (k0_off219 v1165) a + S1x64.size a ≤ S1000000x64.size a)
instance k0_chk92.dec : ∀ (v1165 : BitVec 32), Decidable (k0_chk92 v1165) := fun v1165 => decidable_of_iff' _ (Iff.of_eq (k0_chk92.eq_1 v1165))
theorem k0_off219_inb : ∀ (v1165 : BitVec 32) (k0_hw92 : k0_chk92 v1165), ∀ a, (k0_off219 v1165) a + S1x64.size a ≤ S1000000x64.size a := fun v1165 k0_hw92 => k0_hw92

def k0_off220 (k0_t1 : Fin k0_t1_loop.trips) (c0_i32_668 : BitVec 32) : Fin 2 → Nat :=
  let c0_i32_0 : BitVec 32 := 0#32
  let c1_i32 : BitVec 32 := 1#32
  let arg13 : BitVec 32 := Scf.iv c0_i32_0 c1_i32 k0_t1
  let c16_i32_662 : BitVec 32 := 16#32
  let v1152 : BitVec 32 := Scalar.muli arg13 c16_i32_662
  let c15_i32 : BitVec 32 := 15#32
  let v1153 : BitVec 32 := Scalar.addi v1152 c15_i32
  let c5_i32_667 : BitVec 32 := 5#32
  let v1166 : BitVec 32 := Scalar.muli v1153 c5_i32_667
  let v1167 : BitVec 32 := Scalar.addi v1166 c0_i32_668
  let c0_i32_671 : BitVec 32 := 0#32
  ![v1167.toNat, 0]
def k0_off221 (v1177 : BitVec 32) : Fin 2 → Nat :=
  let c0_i32_676 : BitVec 32 := 0#32
  ![v1177.toNat, 0]

def k0_chk93 (v1177 : BitVec 32) : Prop :=
  (∀ a, (k0_off221 v1177) a + S1x64.size a ≤ S1000000x64.size a)
instance k0_chk93.dec : ∀ (v1177 : BitVec 32), Decidable (k0_chk93 v1177) := fun v1177 => decidable_of_iff' _ (Iff.of_eq (k0_chk93.eq_1 v1177))
theorem k0_off221_inb : ∀ (v1177 : BitVec 32) (k0_hw93 : k0_chk93 v1177), ∀ a, (k0_off221 v1177) a + S1x64.size a ≤ S1000000x64.size a := fun v1177 k0_hw93 => k0_hw93

def k0_off222 (k0_t1 : Fin k0_t1_loop.trips) (c1_i32_674 : BitVec 32) : Fin 2 → Nat :=
  let c0_i32_0 : BitVec 32 := 0#32
  let c1_i32 : BitVec 32 := 1#32
  let arg13 : BitVec 32 := Scf.iv c0_i32_0 c1_i32 k0_t1
  let c16_i32_662 : BitVec 32 := 16#32
  let v1152 : BitVec 32 := Scalar.muli arg13 c16_i32_662
  let c15_i32 : BitVec 32 := 15#32
  let v1153 : BitVec 32 := Scalar.addi v1152 c15_i32
  let c5_i32_673 : BitVec 32 := 5#32
  let v1178 : BitVec 32 := Scalar.muli v1153 c5_i32_673
  let v1179 : BitVec 32 := Scalar.addi v1178 c1_i32_674
  let c0_i32_677 : BitVec 32 := 0#32
  ![v1179.toNat, 0]
def k0_off223 (v1189 : BitVec 32) : Fin 2 → Nat :=
  let c0_i32_682 : BitVec 32 := 0#32
  ![v1189.toNat, 0]

def k0_chk94 (v1189 : BitVec 32) : Prop :=
  (∀ a, (k0_off223 v1189) a + S1x64.size a ≤ S1000000x64.size a)
instance k0_chk94.dec : ∀ (v1189 : BitVec 32), Decidable (k0_chk94 v1189) := fun v1189 => decidable_of_iff' _ (Iff.of_eq (k0_chk94.eq_1 v1189))
theorem k0_off223_inb : ∀ (v1189 : BitVec 32) (k0_hw94 : k0_chk94 v1189), ∀ a, (k0_off223 v1189) a + S1x64.size a ≤ S1000000x64.size a := fun v1189 k0_hw94 => k0_hw94

def k0_off224 (k0_t1 : Fin k0_t1_loop.trips) (c2_i32_680 : BitVec 32) : Fin 2 → Nat :=
  let c0_i32_0 : BitVec 32 := 0#32
  let c1_i32 : BitVec 32 := 1#32
  let arg13 : BitVec 32 := Scf.iv c0_i32_0 c1_i32 k0_t1
  let c16_i32_662 : BitVec 32 := 16#32
  let v1152 : BitVec 32 := Scalar.muli arg13 c16_i32_662
  let c15_i32 : BitVec 32 := 15#32
  let v1153 : BitVec 32 := Scalar.addi v1152 c15_i32
  let c5_i32_679 : BitVec 32 := 5#32
  let v1190 : BitVec 32 := Scalar.muli v1153 c5_i32_679
  let v1191 : BitVec 32 := Scalar.addi v1190 c2_i32_680
  let c0_i32_683 : BitVec 32 := 0#32
  ![v1191.toNat, 0]
def k0_off225 (v1201 : BitVec 32) : Fin 2 → Nat :=
  let c0_i32_688 : BitVec 32 := 0#32
  ![v1201.toNat, 0]

def k0_chk95 (v1201 : BitVec 32) : Prop :=
  (∀ a, (k0_off225 v1201) a + S1x64.size a ≤ S1000000x64.size a)
instance k0_chk95.dec : ∀ (v1201 : BitVec 32), Decidable (k0_chk95 v1201) := fun v1201 => decidable_of_iff' _ (Iff.of_eq (k0_chk95.eq_1 v1201))
theorem k0_off225_inb : ∀ (v1201 : BitVec 32) (k0_hw95 : k0_chk95 v1201), ∀ a, (k0_off225 v1201) a + S1x64.size a ≤ S1000000x64.size a := fun v1201 k0_hw95 => k0_hw95

def k0_off226 (k0_t1 : Fin k0_t1_loop.trips) (c3_i32_686 : BitVec 32) : Fin 2 → Nat :=
  let c0_i32_0 : BitVec 32 := 0#32
  let c1_i32 : BitVec 32 := 1#32
  let arg13 : BitVec 32 := Scf.iv c0_i32_0 c1_i32 k0_t1
  let c16_i32_662 : BitVec 32 := 16#32
  let v1152 : BitVec 32 := Scalar.muli arg13 c16_i32_662
  let c15_i32 : BitVec 32 := 15#32
  let v1153 : BitVec 32 := Scalar.addi v1152 c15_i32
  let c5_i32_685 : BitVec 32 := 5#32
  let v1202 : BitVec 32 := Scalar.muli v1153 c5_i32_685
  let v1203 : BitVec 32 := Scalar.addi v1202 c3_i32_686
  let c0_i32_689 : BitVec 32 := 0#32
  ![v1203.toNat, 0]
def k0_off227 (v1213 : BitVec 32) : Fin 2 → Nat :=
  let c0_i32_694 : BitVec 32 := 0#32
  ![v1213.toNat, 0]

def k0_chk96 (v1213 : BitVec 32) : Prop :=
  (∀ a, (k0_off227 v1213) a + S1x64.size a ≤ S1000000x64.size a)
instance k0_chk96.dec : ∀ (v1213 : BitVec 32), Decidable (k0_chk96 v1213) := fun v1213 => decidable_of_iff' _ (Iff.of_eq (k0_chk96.eq_1 v1213))
theorem k0_off227_inb : ∀ (v1213 : BitVec 32) (k0_hw96 : k0_chk96 v1213), ∀ a, (k0_off227 v1213) a + S1x64.size a ≤ S1000000x64.size a := fun v1213 k0_hw96 => k0_hw96

def k0_off228 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_662 : BitVec 32 := 16#32
  let v1152 : BitVec 32 := Scalar.muli arg13 c16_i32_662
  let c15_i32 : BitVec 32 := 15#32
  let v1153 : BitVec 32 := Scalar.addi v1152 c15_i32
  let c5_i32_691 : BitVec 32 := 5#32
  let v1214 : BitVec 32 := Scalar.muli v1153 c5_i32_691
  let c4_i32_692 : BitVec 32 := 4#32
  let v1215 : BitVec 32 := Scalar.addi v1214 c4_i32_692
  let c0_i32_695 : BitVec 32 := 0#32
  ![v1215.toNat, 0]
@[reducible] def k0_t2_loop : Scf.Loop 32 :=
  let c0_i32_3 : BitVec 32 := 0#32
  let c64_i32 : BitVec 32 := 64#32
  let v5 : BitVec 32 := Scalar.addi c0_i32_3 c64_i32
  let c1_i32_4 : BitVec 32 := 1#32
  ⟨c0_i32_3, v5, c1_i32_4⟩
@[reducible] def k0_t3_loop : Scf.Loop 32 :=
  let c0_i32_7 : BitVec 32 := 0#32
  let c64_i32_8 : BitVec 32 := 64#32
  let v6 : BitVec 32 := Scalar.addi c0_i32_7 c64_i32_8
  let c1_i32_9 : BitVec 32 := 1#32
  ⟨c0_i32_7, v6, c1_i32_9⟩
def k0_off229 (k0_t3 : Fin k0_t3_loop.trips) : Fin 2 → Nat :=
  let c0_i32_7 : BitVec 32 := 0#32
  let c1_i32_9 : BitVec 32 := 1#32
  let arg13 : BitVec 32 := Scf.iv c0_i32_7 c1_i32_9 k0_t3
  let v37 : Index := Scalar.indexCast arg13
  let c0 : Index := 0#32
  ![v37.toNat, 0]
def k0_off230 (k0_t3 : Fin k0_t3_loop.trips) : Fin 2 → Nat :=
  let c0_i32_7 : BitVec 32 := 0#32
  let c1_i32_9 : BitVec 32 := 1#32
  let arg13 : BitVec 32 := Scf.iv c0_i32_7 c1_i32_9 k0_t3
  let v40 : Index := Scalar.indexCast arg13
  let c16 : Index := 16#32
  ![v40.toNat, 16]
def k0_off231 (k0_t3 : Fin k0_t3_loop.trips) : Fin 2 → Nat :=
  let c0_i32_7 : BitVec 32 := 0#32
  let c1_i32_9 : BitVec 32 := 1#32
  let arg13 : BitVec 32 := Scf.iv c0_i32_7 c1_i32_9 k0_t3
  let v43 : Index := Scalar.indexCast arg13
  let c32 : Index := 32#32
  ![v43.toNat, 32]
def k0_off232 (k0_t3 : Fin k0_t3_loop.trips) : Fin 2 → Nat :=
  let c0_i32_7 : BitVec 32 := 0#32
  let c1_i32_9 : BitVec 32 := 1#32
  let arg13 : BitVec 32 := Scf.iv c0_i32_7 c1_i32_9 k0_t3
  let v46 : Index := Scalar.indexCast arg13
  let c48 : Index := 48#32
  ![v46.toNat, 48]
def k0_off233 (k0_t3 : Fin k0_t3_loop.trips) (c0_i32_121 : BitVec 32) : Fin 2 → Nat :=
  let c0_i32_7 : BitVec 32 := 0#32
  let c1_i32_9 : BitVec 32 := 1#32
  let arg13 : BitVec 32 := Scf.iv c0_i32_7 c1_i32_9 k0_t3
  let c5_i32_120 : BitVec 32 := 5#32
  let v51 : BitVec 32 := Scalar.muli arg13 c5_i32_120
  let v52 : BitVec 32 := Scalar.addi v51 c0_i32_121
  let v53 : Index := Scalar.indexCast v52
  let c0_122 : Index := 0#32
  ![v53.toNat, 0]
def k0_off234 (k0_t3 : Fin k0_t3_loop.trips) (c0_i32_121 : BitVec 32) : Fin 2 → Nat :=
  let c0_i32_7 : BitVec 32 := 0#32
  let c1_i32_9 : BitVec 32 := 1#32
  let arg13 : BitVec 32 := Scf.iv c0_i32_7 c1_i32_9 k0_t3
  let c5_i32_120 : BitVec 32 := 5#32
  let v51 : BitVec 32 := Scalar.muli arg13 c5_i32_120
  let v52 : BitVec 32 := Scalar.addi v51 c0_i32_121
  let v57 : Index := Scalar.indexCast v52
  let c16_123 : Index := 16#32
  ![v57.toNat, 16]
def k0_off235 (k0_t3 : Fin k0_t3_loop.trips) (c0_i32_121 : BitVec 32) : Fin 2 → Nat :=
  let c0_i32_7 : BitVec 32 := 0#32
  let c1_i32_9 : BitVec 32 := 1#32
  let arg13 : BitVec 32 := Scf.iv c0_i32_7 c1_i32_9 k0_t3
  let c5_i32_120 : BitVec 32 := 5#32
  let v51 : BitVec 32 := Scalar.muli arg13 c5_i32_120
  let v52 : BitVec 32 := Scalar.addi v51 c0_i32_121
  let v62 : Index := Scalar.indexCast v52
  let c32_124 : Index := 32#32
  ![v62.toNat, 32]
def k0_off236 (k0_t3 : Fin k0_t3_loop.trips) (c0_i32_121 : BitVec 32) : Fin 2 → Nat :=
  let c0_i32_7 : BitVec 32 := 0#32
  let c1_i32_9 : BitVec 32 := 1#32
  let arg13 : BitVec 32 := Scf.iv c0_i32_7 c1_i32_9 k0_t3
  let c5_i32_120 : BitVec 32 := 5#32
  let v51 : BitVec 32 := Scalar.muli arg13 c5_i32_120
  let v52 : BitVec 32 := Scalar.addi v51 c0_i32_121
  let v67 : Index := Scalar.indexCast v52
  let c48_125 : Index := 48#32
  ![v67.toNat, 48]
def k0_off237 (k0_t3 : Fin k0_t3_loop.trips) (c0_i32_126 : BitVec 32) : Fin 1 → Nat :=
  let c0_i32_118 : BitVec 32 := 0#32
  let c0_i32_7 : BitVec 32 := 0#32
  let c1_i32_9 : BitVec 32 := 1#32
  let arg13 : BitVec 32 := Scf.iv c0_i32_7 c1_i32_9 k0_t3
  let v49 : BitVec 32 := Scalar.addi c0_i32_118 arg13
  let c80_i32_119 : BitVec 32 := 80#32
  let v50 : BitVec 32 := Scalar.muli v49 c80_i32_119
  let v74 : BitVec 32 := Scalar.addi v50 c0_i32_126
  let v75 : Index := Scalar.indexCast v74
  ![v75.toNat]
def k0_off238 (i : grid0.Coords) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v7 : BitVec 32 := Scalar.addi v2 c0_i32_11
  let c0_i32_118_r2 : BitVec 32 := 0#32
  ![v7.toNat, 0]
@[reducible] def k0_t4_loop : Scf.Loop 32 :=
  let c0_i32_13 : BitVec 32 := 0#32
  let c4_i32_14 : BitVec 32 := 4#32
  let v8 : BitVec 32 := Scalar.addi c0_i32_13 c4_i32_14
  let c1_i32_15 : BitVec 32 := 1#32
  ⟨c0_i32_13, v8, c1_i32_15⟩
def k0_off239 (k0_t4 : Fin k0_t4_loop.trips) : Fin 1 → Nat :=
  let c64_i32_118 : BitVec 32 := 64#32
  let c0_i32_13 : BitVec 32 := 0#32
  let c1_i32_15 : BitVec 32 := 1#32
  let arg13 : BitVec 32 := Scf.iv c0_i32_13 c1_i32_15 k0_t4
  let c16_i32 : BitVec 32 := 16#32
  let v37 : BitVec 32 := Scalar.muli arg13 c16_i32
  let v38 : BitVec 32 := Scalar.addi c64_i32_118 v37
  let v39 : Index := Scalar.indexCast v38
  ![v39.toNat]
def k0_off240 (k0_t4 : Fin k0_t4_loop.trips) (c0_i32_121 : BitVec 32) : Fin 1 → Nat :=
  let c320_i32_120 : BitVec 32 := 320#32
  let c0_i32_13 : BitVec 32 := 0#32
  let c1_i32_15 : BitVec 32 := 1#32
  let arg13 : BitVec 32 := Scf.iv c0_i32_13 c1_i32_15 k0_t4
  let c80_i32_119 : BitVec 32 := 80#32
  let v42 : BitVec 32 := Scalar.muli arg13 c80_i32_119
  let v43 : BitVec 32 := Scalar.addi c320_i32_120 v42
  let v44 : BitVec 32 := Scalar.addi v43 c0_i32_121
  let v45 : Index := Scalar.indexCast v44
  ![v45.toNat]
def k0_off241 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_132 : BitVec 32 := 16#32
  let v72 : BitVec 32 := Scalar.muli arg13 c16_i32_132
  let c0_i32_133 : BitVec 32 := 0#32
  let v73 : BitVec 32 := Scalar.addi v72 c0_i32_133
  let c0_i32_134 : BitVec 32 := 0#32
  ![v73.toNat, 0]
def k0_off242 (v75 : BitVec 32) : Fin 2 → Nat :=
  let c0_i32_135 : BitVec 32 := 0#32
  ![v75.toNat, 0]

def k0_chk97 (v75 : BitVec 32) : Prop :=
  (∀ a, (k0_off242 v75) a + S1x64.size a ≤ S1000000x64.size a)
instance k0_chk97.dec : ∀ (v75 : BitVec 32), Decidable (k0_chk97 v75) := fun v75 => decidable_of_iff' _ (Iff.of_eq (k0_chk97.eq_1 v75))
theorem k0_off242_inb : ∀ (v75 : BitVec 32) (k0_hw97 : k0_chk97 v75), ∀ a, (k0_off242 v75) a + S1x64.size a ≤ S1000000x64.size a := fun v75 k0_hw97 => k0_hw97

def k0_off243 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_132 : BitVec 32 := 16#32
  let v72 : BitVec 32 := Scalar.muli arg13 c16_i32_132
  let c0_i32_133 : BitVec 32 := 0#32
  let v73 : BitVec 32 := Scalar.addi v72 c0_i32_133
  let c0_i32_136 : BitVec 32 := 0#32
  ![v73.toNat, 0]
def k0_off244 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_132 : BitVec 32 := 16#32
  let v72 : BitVec 32 := Scalar.muli arg13 c16_i32_132
  let c0_i32_133 : BitVec 32 := 0#32
  let v73 : BitVec 32 := Scalar.addi v72 c0_i32_133
  let c5_i32_138 : BitVec 32 := 5#32
  let v86 : BitVec 32 := Scalar.muli v73 c5_i32_138
  let c0_i32_139 : BitVec 32 := 0#32
  let v87 : BitVec 32 := Scalar.addi v86 c0_i32_139
  let c0_i32_140 : BitVec 32 := 0#32
  ![v87.toNat, 0]
def k0_off245 (v85 : BitVec 32) : Fin 2 → Nat :=
  let c0_i32_141 : BitVec 32 := 0#32
  ![v85.toNat, 0]

def k0_chk98 (v85 : BitVec 32) : Prop :=
  (∀ a, (k0_off245 v85) a + S1x64.size a ≤ S1000000x64.size a)
instance k0_chk98.dec : ∀ (v85 : BitVec 32), Decidable (k0_chk98 v85) := fun v85 => decidable_of_iff' _ (Iff.of_eq (k0_chk98.eq_1 v85))
theorem k0_off245_inb : ∀ (v85 : BitVec 32) (k0_hw98 : k0_chk98 v85), ∀ a, (k0_off245 v85) a + S1x64.size a ≤ S1000000x64.size a := fun v85 k0_hw98 => k0_hw98

def k0_off246 (k0_t4 : Fin k0_t4_loop.trips) (c0_i32_139 : BitVec 32) : Fin 2 → Nat :=
  let c0_i32_13 : BitVec 32 := 0#32
  let c1_i32_15 : BitVec 32 := 1#32
  let arg13 : BitVec 32 := Scf.iv c0_i32_13 c1_i32_15 k0_t4
  let c16_i32_132 : BitVec 32 := 16#32
  let v72 : BitVec 32 := Scalar.muli arg13 c16_i32_132
  let c0_i32_133 : BitVec 32 := 0#32
  let v73 : BitVec 32 := Scalar.addi v72 c0_i32_133
  let c5_i32_138 : BitVec 32 := 5#32
  let v86 : BitVec 32 := Scalar.muli v73 c5_i32_138
  let v87 : BitVec 32 := Scalar.addi v86 c0_i32_139
  let c0_i32_142 : BitVec 32 := 0#32
  ![v87.toNat, 0]
def k0_off247 (v97 : BitVec 32) : Fin 2 → Nat :=
  let c0_i32_147 : BitVec 32 := 0#32
  ![v97.toNat, 0]

def k0_chk99 (v97 : BitVec 32) : Prop :=
  (∀ a, (k0_off247 v97) a + S1x64.size a ≤ S1000000x64.size a)
instance k0_chk99.dec : ∀ (v97 : BitVec 32), Decidable (k0_chk99 v97) := fun v97 => decidable_of_iff' _ (Iff.of_eq (k0_chk99.eq_1 v97))
theorem k0_off247_inb : ∀ (v97 : BitVec 32) (k0_hw99 : k0_chk99 v97), ∀ a, (k0_off247 v97) a + S1x64.size a ≤ S1000000x64.size a := fun v97 k0_hw99 => k0_hw99

def k0_off248 (k0_t4 : Fin k0_t4_loop.trips) (c1_i32_145 : BitVec 32) : Fin 2 → Nat :=
  let c0_i32_13 : BitVec 32 := 0#32
  let c1_i32_15 : BitVec 32 := 1#32
  let arg13 : BitVec 32 := Scf.iv c0_i32_13 c1_i32_15 k0_t4
  let c16_i32_132 : BitVec 32 := 16#32
  let v72 : BitVec 32 := Scalar.muli arg13 c16_i32_132
  let c0_i32_133 : BitVec 32 := 0#32
  let v73 : BitVec 32 := Scalar.addi v72 c0_i32_133
  let c5_i32_144 : BitVec 32 := 5#32
  let v98 : BitVec 32 := Scalar.muli v73 c5_i32_144
  let v99 : BitVec 32 := Scalar.addi v98 c1_i32_145
  let c0_i32_148 : BitVec 32 := 0#32
  ![v99.toNat, 0]
def k0_off249 (v109 : BitVec 32) : Fin 2 → Nat :=
  let c0_i32_153 : BitVec 32 := 0#32
  ![v109.toNat, 0]

def k0_chk100 (v109 : BitVec 32) : Prop :=
  (∀ a, (k0_off249 v109) a + S1x64.size a ≤ S1000000x64.size a)
instance k0_chk100.dec : ∀ (v109 : BitVec 32), Decidable (k0_chk100 v109) := fun v109 => decidable_of_iff' _ (Iff.of_eq (k0_chk100.eq_1 v109))
theorem k0_off249_inb : ∀ (v109 : BitVec 32) (k0_hw100 : k0_chk100 v109), ∀ a, (k0_off249 v109) a + S1x64.size a ≤ S1000000x64.size a := fun v109 k0_hw100 => k0_hw100

def k0_off250 (k0_t4 : Fin k0_t4_loop.trips) (c2_i32_151 : BitVec 32) : Fin 2 → Nat :=
  let c0_i32_13 : BitVec 32 := 0#32
  let c1_i32_15 : BitVec 32 := 1#32
  let arg13 : BitVec 32 := Scf.iv c0_i32_13 c1_i32_15 k0_t4
  let c16_i32_132 : BitVec 32 := 16#32
  let v72 : BitVec 32 := Scalar.muli arg13 c16_i32_132
  let c0_i32_133 : BitVec 32 := 0#32
  let v73 : BitVec 32 := Scalar.addi v72 c0_i32_133
  let c5_i32_150 : BitVec 32 := 5#32
  let v110 : BitVec 32 := Scalar.muli v73 c5_i32_150
  let v111 : BitVec 32 := Scalar.addi v110 c2_i32_151
  let c0_i32_154 : BitVec 32 := 0#32
  ![v111.toNat, 0]
def k0_off251 (v121 : BitVec 32) : Fin 2 → Nat :=
  let c0_i32_158 : BitVec 32 := 0#32
  ![v121.toNat, 0]

def k0_chk101 (v121 : BitVec 32) : Prop :=
  (∀ a, (k0_off251 v121) a + S1x64.size a ≤ S1000000x64.size a)
instance k0_chk101.dec : ∀ (v121 : BitVec 32), Decidable (k0_chk101 v121) := fun v121 => decidable_of_iff' _ (Iff.of_eq (k0_chk101.eq_1 v121))
theorem k0_off251_inb : ∀ (v121 : BitVec 32) (k0_hw101 : k0_chk101 v121), ∀ a, (k0_off251 v121) a + S1x64.size a ≤ S1000000x64.size a := fun v121 k0_hw101 => k0_hw101

def k0_off252 (k0_t4 : Fin k0_t4_loop.trips) (c3_i32 : BitVec 32) : Fin 2 → Nat :=
  let c0_i32_13 : BitVec 32 := 0#32
  let c1_i32_15 : BitVec 32 := 1#32
  let arg13 : BitVec 32 := Scf.iv c0_i32_13 c1_i32_15 k0_t4
  let c16_i32_132 : BitVec 32 := 16#32
  let v72 : BitVec 32 := Scalar.muli arg13 c16_i32_132
  let c0_i32_133 : BitVec 32 := 0#32
  let v73 : BitVec 32 := Scalar.addi v72 c0_i32_133
  let c5_i32_156 : BitVec 32 := 5#32
  let v122 : BitVec 32 := Scalar.muli v73 c5_i32_156
  let v123 : BitVec 32 := Scalar.addi v122 c3_i32
  let c0_i32_159 : BitVec 32 := 0#32
  ![v123.toNat, 0]
def k0_off253 (v133 : BitVec 32) : Fin 2 → Nat :=
  let c0_i32_164 : BitVec 32 := 0#32
  ![v133.toNat, 0]

def k0_chk102 (v133 : BitVec 32) : Prop :=
  (∀ a, (k0_off253 v133) a + S1x64.size a ≤ S1000000x64.size a)
instance k0_chk102.dec : ∀ (v133 : BitVec 32), Decidable (k0_chk102 v133) := fun v133 => decidable_of_iff' _ (Iff.of_eq (k0_chk102.eq_1 v133))
theorem k0_off253_inb : ∀ (v133 : BitVec 32) (k0_hw102 : k0_chk102 v133), ∀ a, (k0_off253 v133) a + S1x64.size a ≤ S1000000x64.size a := fun v133 k0_hw102 => k0_hw102

def k0_off254 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_132 : BitVec 32 := 16#32
  let v72 : BitVec 32 := Scalar.muli arg13 c16_i32_132
  let c0_i32_133 : BitVec 32 := 0#32
  let v73 : BitVec 32 := Scalar.addi v72 c0_i32_133
  let c5_i32_161 : BitVec 32 := 5#32
  let v134 : BitVec 32 := Scalar.muli v73 c5_i32_161
  let c4_i32_162 : BitVec 32 := 4#32
  let v135 : BitVec 32 := Scalar.addi v134 c4_i32_162
  let c0_i32_165 : BitVec 32 := 0#32
  ![v135.toNat, 0]
def k0_off255 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_167 : BitVec 32 := 16#32
  let v144 : BitVec 32 := Scalar.muli arg13 c16_i32_167
  let c1_i32_168 : BitVec 32 := 1#32
  let v145 : BitVec 32 := Scalar.addi v144 c1_i32_168
  let c0_i32_169 : BitVec 32 := 0#32
  ![v145.toNat, 0]
def k0_off256 (v147 : BitVec 32) : Fin 2 → Nat :=
  let c0_i32_170 : BitVec 32 := 0#32
  ![v147.toNat, 0]

def k0_chk103 (v147 : BitVec 32) : Prop :=
  (∀ a, (k0_off256 v147) a + S1x64.size a ≤ S1000000x64.size a)
instance k0_chk103.dec : ∀ (v147 : BitVec 32), Decidable (k0_chk103 v147) := fun v147 => decidable_of_iff' _ (Iff.of_eq (k0_chk103.eq_1 v147))
theorem k0_off256_inb : ∀ (v147 : BitVec 32) (k0_hw103 : k0_chk103 v147), ∀ a, (k0_off256 v147) a + S1x64.size a ≤ S1000000x64.size a := fun v147 k0_hw103 => k0_hw103

def k0_off257 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_167 : BitVec 32 := 16#32
  let v144 : BitVec 32 := Scalar.muli arg13 c16_i32_167
  let c1_i32_168 : BitVec 32 := 1#32
  let v145 : BitVec 32 := Scalar.addi v144 c1_i32_168
  let c0_i32_171 : BitVec 32 := 0#32
  ![v145.toNat, 0]
def k0_off258 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_167 : BitVec 32 := 16#32
  let v144 : BitVec 32 := Scalar.muli arg13 c16_i32_167
  let c1_i32_168 : BitVec 32 := 1#32
  let v145 : BitVec 32 := Scalar.addi v144 c1_i32_168
  let c5_i32_173 : BitVec 32 := 5#32
  let v158 : BitVec 32 := Scalar.muli v145 c5_i32_173
  let c0_i32_174 : BitVec 32 := 0#32
  let v159 : BitVec 32 := Scalar.addi v158 c0_i32_174
  let c0_i32_175 : BitVec 32 := 0#32
  ![v159.toNat, 0]
def k0_off259 (v157 : BitVec 32) : Fin 2 → Nat :=
  let c0_i32_176 : BitVec 32 := 0#32
  ![v157.toNat, 0]

def k0_chk104 (v157 : BitVec 32) : Prop :=
  (∀ a, (k0_off259 v157) a + S1x64.size a ≤ S1000000x64.size a)
instance k0_chk104.dec : ∀ (v157 : BitVec 32), Decidable (k0_chk104 v157) := fun v157 => decidable_of_iff' _ (Iff.of_eq (k0_chk104.eq_1 v157))
theorem k0_off259_inb : ∀ (v157 : BitVec 32) (k0_hw104 : k0_chk104 v157), ∀ a, (k0_off259 v157) a + S1x64.size a ≤ S1000000x64.size a := fun v157 k0_hw104 => k0_hw104

def k0_off260 (k0_t4 : Fin k0_t4_loop.trips) (c0_i32_174 : BitVec 32) : Fin 2 → Nat :=
  let c0_i32_13 : BitVec 32 := 0#32
  let c1_i32_15 : BitVec 32 := 1#32
  let arg13 : BitVec 32 := Scf.iv c0_i32_13 c1_i32_15 k0_t4
  let c16_i32_167 : BitVec 32 := 16#32
  let v144 : BitVec 32 := Scalar.muli arg13 c16_i32_167
  let c1_i32_168 : BitVec 32 := 1#32
  let v145 : BitVec 32 := Scalar.addi v144 c1_i32_168
  let c5_i32_173 : BitVec 32 := 5#32
  let v158 : BitVec 32 := Scalar.muli v145 c5_i32_173
  let v159 : BitVec 32 := Scalar.addi v158 c0_i32_174
  let c0_i32_177 : BitVec 32 := 0#32
  ![v159.toNat, 0]
def k0_off261 (v169 : BitVec 32) : Fin 2 → Nat :=
  let c0_i32_182 : BitVec 32 := 0#32
  ![v169.toNat, 0]

def k0_chk105 (v169 : BitVec 32) : Prop :=
  (∀ a, (k0_off261 v169) a + S1x64.size a ≤ S1000000x64.size a)
instance k0_chk105.dec : ∀ (v169 : BitVec 32), Decidable (k0_chk105 v169) := fun v169 => decidable_of_iff' _ (Iff.of_eq (k0_chk105.eq_1 v169))
theorem k0_off261_inb : ∀ (v169 : BitVec 32) (k0_hw105 : k0_chk105 v169), ∀ a, (k0_off261 v169) a + S1x64.size a ≤ S1000000x64.size a := fun v169 k0_hw105 => k0_hw105

def k0_off262 (k0_t4 : Fin k0_t4_loop.trips) (c1_i32_180 : BitVec 32) : Fin 2 → Nat :=
  let c0_i32_13 : BitVec 32 := 0#32
  let c1_i32_15 : BitVec 32 := 1#32
  let arg13 : BitVec 32 := Scf.iv c0_i32_13 c1_i32_15 k0_t4
  let c16_i32_167 : BitVec 32 := 16#32
  let v144 : BitVec 32 := Scalar.muli arg13 c16_i32_167
  let c1_i32_168 : BitVec 32 := 1#32
  let v145 : BitVec 32 := Scalar.addi v144 c1_i32_168
  let c5_i32_179 : BitVec 32 := 5#32
  let v170 : BitVec 32 := Scalar.muli v145 c5_i32_179
  let v171 : BitVec 32 := Scalar.addi v170 c1_i32_180
  let c0_i32_183 : BitVec 32 := 0#32
  ![v171.toNat, 0]
def k0_off263 (v181 : BitVec 32) : Fin 2 → Nat :=
  let c0_i32_188 : BitVec 32 := 0#32
  ![v181.toNat, 0]

def k0_chk106 (v181 : BitVec 32) : Prop :=
  (∀ a, (k0_off263 v181) a + S1x64.size a ≤ S1000000x64.size a)
instance k0_chk106.dec : ∀ (v181 : BitVec 32), Decidable (k0_chk106 v181) := fun v181 => decidable_of_iff' _ (Iff.of_eq (k0_chk106.eq_1 v181))
theorem k0_off263_inb : ∀ (v181 : BitVec 32) (k0_hw106 : k0_chk106 v181), ∀ a, (k0_off263 v181) a + S1x64.size a ≤ S1000000x64.size a := fun v181 k0_hw106 => k0_hw106

def k0_off264 (k0_t4 : Fin k0_t4_loop.trips) (c2_i32_186 : BitVec 32) : Fin 2 → Nat :=
  let c0_i32_13 : BitVec 32 := 0#32
  let c1_i32_15 : BitVec 32 := 1#32
  let arg13 : BitVec 32 := Scf.iv c0_i32_13 c1_i32_15 k0_t4
  let c16_i32_167 : BitVec 32 := 16#32
  let v144 : BitVec 32 := Scalar.muli arg13 c16_i32_167
  let c1_i32_168 : BitVec 32 := 1#32
  let v145 : BitVec 32 := Scalar.addi v144 c1_i32_168
  let c5_i32_185 : BitVec 32 := 5#32
  let v182 : BitVec 32 := Scalar.muli v145 c5_i32_185
  let v183 : BitVec 32 := Scalar.addi v182 c2_i32_186
  let c0_i32_189 : BitVec 32 := 0#32
  ![v183.toNat, 0]
def k0_off265 (v193 : BitVec 32) : Fin 2 → Nat :=
  let c0_i32_194 : BitVec 32 := 0#32
  ![v193.toNat, 0]

def k0_chk107 (v193 : BitVec 32) : Prop :=
  (∀ a, (k0_off265 v193) a + S1x64.size a ≤ S1000000x64.size a)
instance k0_chk107.dec : ∀ (v193 : BitVec 32), Decidable (k0_chk107 v193) := fun v193 => decidable_of_iff' _ (Iff.of_eq (k0_chk107.eq_1 v193))
theorem k0_off265_inb : ∀ (v193 : BitVec 32) (k0_hw107 : k0_chk107 v193), ∀ a, (k0_off265 v193) a + S1x64.size a ≤ S1000000x64.size a := fun v193 k0_hw107 => k0_hw107

def k0_off266 (k0_t4 : Fin k0_t4_loop.trips) (c3_i32_192 : BitVec 32) : Fin 2 → Nat :=
  let c0_i32_13 : BitVec 32 := 0#32
  let c1_i32_15 : BitVec 32 := 1#32
  let arg13 : BitVec 32 := Scf.iv c0_i32_13 c1_i32_15 k0_t4
  let c16_i32_167 : BitVec 32 := 16#32
  let v144 : BitVec 32 := Scalar.muli arg13 c16_i32_167
  let c1_i32_168 : BitVec 32 := 1#32
  let v145 : BitVec 32 := Scalar.addi v144 c1_i32_168
  let c5_i32_191 : BitVec 32 := 5#32
  let v194 : BitVec 32 := Scalar.muli v145 c5_i32_191
  let v195 : BitVec 32 := Scalar.addi v194 c3_i32_192
  let c0_i32_195 : BitVec 32 := 0#32
  ![v195.toNat, 0]
def k0_off267 (v205 : BitVec 32) : Fin 2 → Nat :=
  let c0_i32_200 : BitVec 32 := 0#32
  ![v205.toNat, 0]

def k0_chk108 (v205 : BitVec 32) : Prop :=
  (∀ a, (k0_off267 v205) a + S1x64.size a ≤ S1000000x64.size a)
instance k0_chk108.dec : ∀ (v205 : BitVec 32), Decidable (k0_chk108 v205) := fun v205 => decidable_of_iff' _ (Iff.of_eq (k0_chk108.eq_1 v205))
theorem k0_off267_inb : ∀ (v205 : BitVec 32) (k0_hw108 : k0_chk108 v205), ∀ a, (k0_off267 v205) a + S1x64.size a ≤ S1000000x64.size a := fun v205 k0_hw108 => k0_hw108

def k0_off268 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_167 : BitVec 32 := 16#32
  let v144 : BitVec 32 := Scalar.muli arg13 c16_i32_167
  let c1_i32_168 : BitVec 32 := 1#32
  let v145 : BitVec 32 := Scalar.addi v144 c1_i32_168
  let c5_i32_197 : BitVec 32 := 5#32
  let v206 : BitVec 32 := Scalar.muli v145 c5_i32_197
  let c4_i32_198 : BitVec 32 := 4#32
  let v207 : BitVec 32 := Scalar.addi v206 c4_i32_198
  let c0_i32_201 : BitVec 32 := 0#32
  ![v207.toNat, 0]
def k0_off269 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_203 : BitVec 32 := 16#32
  let v216 : BitVec 32 := Scalar.muli arg13 c16_i32_203
  let c2_i32_204 : BitVec 32 := 2#32
  let v217 : BitVec 32 := Scalar.addi v216 c2_i32_204
  let c0_i32_205 : BitVec 32 := 0#32
  ![v217.toNat, 0]
def k0_off270 (v219 : BitVec 32) : Fin 2 → Nat :=
  let c0_i32_206 : BitVec 32 := 0#32
  ![v219.toNat, 0]

def k0_chk109 (v219 : BitVec 32) : Prop :=
  (∀ a, (k0_off270 v219) a + S1x64.size a ≤ S1000000x64.size a)
instance k0_chk109.dec : ∀ (v219 : BitVec 32), Decidable (k0_chk109 v219) := fun v219 => decidable_of_iff' _ (Iff.of_eq (k0_chk109.eq_1 v219))
theorem k0_off270_inb : ∀ (v219 : BitVec 32) (k0_hw109 : k0_chk109 v219), ∀ a, (k0_off270 v219) a + S1x64.size a ≤ S1000000x64.size a := fun v219 k0_hw109 => k0_hw109

def k0_off271 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_203 : BitVec 32 := 16#32
  let v216 : BitVec 32 := Scalar.muli arg13 c16_i32_203
  let c2_i32_204 : BitVec 32 := 2#32
  let v217 : BitVec 32 := Scalar.addi v216 c2_i32_204
  let c0_i32_207 : BitVec 32 := 0#32
  ![v217.toNat, 0]
def k0_off272 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_203 : BitVec 32 := 16#32
  let v216 : BitVec 32 := Scalar.muli arg13 c16_i32_203
  let c2_i32_204 : BitVec 32 := 2#32
  let v217 : BitVec 32 := Scalar.addi v216 c2_i32_204
  let c5_i32_209 : BitVec 32 := 5#32
  let v230 : BitVec 32 := Scalar.muli v217 c5_i32_209
  let c0_i32_210 : BitVec 32 := 0#32
  let v231 : BitVec 32 := Scalar.addi v230 c0_i32_210
  let c0_i32_211 : BitVec 32 := 0#32
  ![v231.toNat, 0]
def k0_off273 (v229 : BitVec 32) : Fin 2 → Nat :=
  let c0_i32_212 : BitVec 32 := 0#32
  ![v229.toNat, 0]

def k0_chk110 (v229 : BitVec 32) : Prop :=
  (∀ a, (k0_off273 v229) a + S1x64.size a ≤ S1000000x64.size a)
instance k0_chk110.dec : ∀ (v229 : BitVec 32), Decidable (k0_chk110 v229) := fun v229 => decidable_of_iff' _ (Iff.of_eq (k0_chk110.eq_1 v229))
theorem k0_off273_inb : ∀ (v229 : BitVec 32) (k0_hw110 : k0_chk110 v229), ∀ a, (k0_off273 v229) a + S1x64.size a ≤ S1000000x64.size a := fun v229 k0_hw110 => k0_hw110

def k0_off274 (k0_t4 : Fin k0_t4_loop.trips) (c0_i32_210 : BitVec 32) : Fin 2 → Nat :=
  let c0_i32_13 : BitVec 32 := 0#32
  let c1_i32_15 : BitVec 32 := 1#32
  let arg13 : BitVec 32 := Scf.iv c0_i32_13 c1_i32_15 k0_t4
  let c16_i32_203 : BitVec 32 := 16#32
  let v216 : BitVec 32 := Scalar.muli arg13 c16_i32_203
  let c2_i32_204 : BitVec 32 := 2#32
  let v217 : BitVec 32 := Scalar.addi v216 c2_i32_204
  let c5_i32_209 : BitVec 32 := 5#32
  let v230 : BitVec 32 := Scalar.muli v217 c5_i32_209
  let v231 : BitVec 32 := Scalar.addi v230 c0_i32_210
  let c0_i32_213 : BitVec 32 := 0#32
  ![v231.toNat, 0]
def k0_off275 (v241 : BitVec 32) : Fin 2 → Nat :=
  let c0_i32_218 : BitVec 32 := 0#32
  ![v241.toNat, 0]

def k0_chk111 (v241 : BitVec 32) : Prop :=
  (∀ a, (k0_off275 v241) a + S1x64.size a ≤ S1000000x64.size a)
instance k0_chk111.dec : ∀ (v241 : BitVec 32), Decidable (k0_chk111 v241) := fun v241 => decidable_of_iff' _ (Iff.of_eq (k0_chk111.eq_1 v241))
theorem k0_off275_inb : ∀ (v241 : BitVec 32) (k0_hw111 : k0_chk111 v241), ∀ a, (k0_off275 v241) a + S1x64.size a ≤ S1000000x64.size a := fun v241 k0_hw111 => k0_hw111

def k0_off276 (k0_t4 : Fin k0_t4_loop.trips) (c1_i32_216 : BitVec 32) : Fin 2 → Nat :=
  let c0_i32_13 : BitVec 32 := 0#32
  let c1_i32_15 : BitVec 32 := 1#32
  let arg13 : BitVec 32 := Scf.iv c0_i32_13 c1_i32_15 k0_t4
  let c16_i32_203 : BitVec 32 := 16#32
  let v216 : BitVec 32 := Scalar.muli arg13 c16_i32_203
  let c2_i32_204 : BitVec 32 := 2#32
  let v217 : BitVec 32 := Scalar.addi v216 c2_i32_204
  let c5_i32_215 : BitVec 32 := 5#32
  let v242 : BitVec 32 := Scalar.muli v217 c5_i32_215
  let v243 : BitVec 32 := Scalar.addi v242 c1_i32_216
  let c0_i32_219 : BitVec 32 := 0#32
  ![v243.toNat, 0]
def k0_off277 (v253 : BitVec 32) : Fin 2 → Nat :=
  let c0_i32_224 : BitVec 32 := 0#32
  ![v253.toNat, 0]

def k0_chk112 (v253 : BitVec 32) : Prop :=
  (∀ a, (k0_off277 v253) a + S1x64.size a ≤ S1000000x64.size a)
instance k0_chk112.dec : ∀ (v253 : BitVec 32), Decidable (k0_chk112 v253) := fun v253 => decidable_of_iff' _ (Iff.of_eq (k0_chk112.eq_1 v253))
theorem k0_off277_inb : ∀ (v253 : BitVec 32) (k0_hw112 : k0_chk112 v253), ∀ a, (k0_off277 v253) a + S1x64.size a ≤ S1000000x64.size a := fun v253 k0_hw112 => k0_hw112

def k0_off278 (k0_t4 : Fin k0_t4_loop.trips) (c2_i32_222 : BitVec 32) : Fin 2 → Nat :=
  let c0_i32_13 : BitVec 32 := 0#32
  let c1_i32_15 : BitVec 32 := 1#32
  let arg13 : BitVec 32 := Scf.iv c0_i32_13 c1_i32_15 k0_t4
  let c16_i32_203 : BitVec 32 := 16#32
  let v216 : BitVec 32 := Scalar.muli arg13 c16_i32_203
  let c2_i32_204 : BitVec 32 := 2#32
  let v217 : BitVec 32 := Scalar.addi v216 c2_i32_204
  let c5_i32_221 : BitVec 32 := 5#32
  let v254 : BitVec 32 := Scalar.muli v217 c5_i32_221
  let v255 : BitVec 32 := Scalar.addi v254 c2_i32_222
  let c0_i32_225 : BitVec 32 := 0#32
  ![v255.toNat, 0]
def k0_off279 (v265 : BitVec 32) : Fin 2 → Nat :=
  let c0_i32_230 : BitVec 32 := 0#32
  ![v265.toNat, 0]

def k0_chk113 (v265 : BitVec 32) : Prop :=
  (∀ a, (k0_off279 v265) a + S1x64.size a ≤ S1000000x64.size a)
instance k0_chk113.dec : ∀ (v265 : BitVec 32), Decidable (k0_chk113 v265) := fun v265 => decidable_of_iff' _ (Iff.of_eq (k0_chk113.eq_1 v265))
theorem k0_off279_inb : ∀ (v265 : BitVec 32) (k0_hw113 : k0_chk113 v265), ∀ a, (k0_off279 v265) a + S1x64.size a ≤ S1000000x64.size a := fun v265 k0_hw113 => k0_hw113

def k0_off280 (k0_t4 : Fin k0_t4_loop.trips) (c3_i32_228 : BitVec 32) : Fin 2 → Nat :=
  let c0_i32_13 : BitVec 32 := 0#32
  let c1_i32_15 : BitVec 32 := 1#32
  let arg13 : BitVec 32 := Scf.iv c0_i32_13 c1_i32_15 k0_t4
  let c16_i32_203 : BitVec 32 := 16#32
  let v216 : BitVec 32 := Scalar.muli arg13 c16_i32_203
  let c2_i32_204 : BitVec 32 := 2#32
  let v217 : BitVec 32 := Scalar.addi v216 c2_i32_204
  let c5_i32_227 : BitVec 32 := 5#32
  let v266 : BitVec 32 := Scalar.muli v217 c5_i32_227
  let v267 : BitVec 32 := Scalar.addi v266 c3_i32_228
  let c0_i32_231 : BitVec 32 := 0#32
  ![v267.toNat, 0]
def k0_off281 (v277 : BitVec 32) : Fin 2 → Nat :=
  let c0_i32_236 : BitVec 32 := 0#32
  ![v277.toNat, 0]

def k0_chk114 (v277 : BitVec 32) : Prop :=
  (∀ a, (k0_off281 v277) a + S1x64.size a ≤ S1000000x64.size a)
instance k0_chk114.dec : ∀ (v277 : BitVec 32), Decidable (k0_chk114 v277) := fun v277 => decidable_of_iff' _ (Iff.of_eq (k0_chk114.eq_1 v277))
theorem k0_off281_inb : ∀ (v277 : BitVec 32) (k0_hw114 : k0_chk114 v277), ∀ a, (k0_off281 v277) a + S1x64.size a ≤ S1000000x64.size a := fun v277 k0_hw114 => k0_hw114

def k0_off282 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_203 : BitVec 32 := 16#32
  let v216 : BitVec 32 := Scalar.muli arg13 c16_i32_203
  let c2_i32_204 : BitVec 32 := 2#32
  let v217 : BitVec 32 := Scalar.addi v216 c2_i32_204
  let c5_i32_233 : BitVec 32 := 5#32
  let v278 : BitVec 32 := Scalar.muli v217 c5_i32_233
  let c4_i32_234 : BitVec 32 := 4#32
  let v279 : BitVec 32 := Scalar.addi v278 c4_i32_234
  let c0_i32_237 : BitVec 32 := 0#32
  ![v279.toNat, 0]
def k0_off283 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_239 : BitVec 32 := 16#32
  let v288 : BitVec 32 := Scalar.muli arg13 c16_i32_239
  let c3_i32_240 : BitVec 32 := 3#32
  let v289 : BitVec 32 := Scalar.addi v288 c3_i32_240
  let c0_i32_241 : BitVec 32 := 0#32
  ![v289.toNat, 0]
def k0_off284 (v291 : BitVec 32) : Fin 2 → Nat :=
  let c0_i32_242 : BitVec 32 := 0#32
  ![v291.toNat, 0]

def k0_chk115 (v291 : BitVec 32) : Prop :=
  (∀ a, (k0_off284 v291) a + S1x64.size a ≤ S1000000x64.size a)
instance k0_chk115.dec : ∀ (v291 : BitVec 32), Decidable (k0_chk115 v291) := fun v291 => decidable_of_iff' _ (Iff.of_eq (k0_chk115.eq_1 v291))
theorem k0_off284_inb : ∀ (v291 : BitVec 32) (k0_hw115 : k0_chk115 v291), ∀ a, (k0_off284 v291) a + S1x64.size a ≤ S1000000x64.size a := fun v291 k0_hw115 => k0_hw115

def k0_off285 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_239 : BitVec 32 := 16#32
  let v288 : BitVec 32 := Scalar.muli arg13 c16_i32_239
  let c3_i32_240 : BitVec 32 := 3#32
  let v289 : BitVec 32 := Scalar.addi v288 c3_i32_240
  let c0_i32_243 : BitVec 32 := 0#32
  ![v289.toNat, 0]
def k0_off286 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_239 : BitVec 32 := 16#32
  let v288 : BitVec 32 := Scalar.muli arg13 c16_i32_239
  let c3_i32_240 : BitVec 32 := 3#32
  let v289 : BitVec 32 := Scalar.addi v288 c3_i32_240
  let c5_i32_245 : BitVec 32 := 5#32
  let v302 : BitVec 32 := Scalar.muli v289 c5_i32_245
  let c0_i32_246 : BitVec 32 := 0#32
  let v303 : BitVec 32 := Scalar.addi v302 c0_i32_246
  let c0_i32_247 : BitVec 32 := 0#32
  ![v303.toNat, 0]
def k0_off287 (v301 : BitVec 32) : Fin 2 → Nat :=
  let c0_i32_248 : BitVec 32 := 0#32
  ![v301.toNat, 0]

def k0_chk116 (v301 : BitVec 32) : Prop :=
  (∀ a, (k0_off287 v301) a + S1x64.size a ≤ S1000000x64.size a)
instance k0_chk116.dec : ∀ (v301 : BitVec 32), Decidable (k0_chk116 v301) := fun v301 => decidable_of_iff' _ (Iff.of_eq (k0_chk116.eq_1 v301))
theorem k0_off287_inb : ∀ (v301 : BitVec 32) (k0_hw116 : k0_chk116 v301), ∀ a, (k0_off287 v301) a + S1x64.size a ≤ S1000000x64.size a := fun v301 k0_hw116 => k0_hw116

def k0_off288 (k0_t4 : Fin k0_t4_loop.trips) (c0_i32_246 : BitVec 32) : Fin 2 → Nat :=
  let c0_i32_13 : BitVec 32 := 0#32
  let c1_i32_15 : BitVec 32 := 1#32
  let arg13 : BitVec 32 := Scf.iv c0_i32_13 c1_i32_15 k0_t4
  let c16_i32_239 : BitVec 32 := 16#32
  let v288 : BitVec 32 := Scalar.muli arg13 c16_i32_239
  let c3_i32_240 : BitVec 32 := 3#32
  let v289 : BitVec 32 := Scalar.addi v288 c3_i32_240
  let c5_i32_245 : BitVec 32 := 5#32
  let v302 : BitVec 32 := Scalar.muli v289 c5_i32_245
  let v303 : BitVec 32 := Scalar.addi v302 c0_i32_246
  let c0_i32_249 : BitVec 32 := 0#32
  ![v303.toNat, 0]
def k0_off289 (v313 : BitVec 32) : Fin 2 → Nat :=
  let c0_i32_254 : BitVec 32 := 0#32
  ![v313.toNat, 0]

def k0_chk117 (v313 : BitVec 32) : Prop :=
  (∀ a, (k0_off289 v313) a + S1x64.size a ≤ S1000000x64.size a)
instance k0_chk117.dec : ∀ (v313 : BitVec 32), Decidable (k0_chk117 v313) := fun v313 => decidable_of_iff' _ (Iff.of_eq (k0_chk117.eq_1 v313))
theorem k0_off289_inb : ∀ (v313 : BitVec 32) (k0_hw117 : k0_chk117 v313), ∀ a, (k0_off289 v313) a + S1x64.size a ≤ S1000000x64.size a := fun v313 k0_hw117 => k0_hw117

def k0_off290 (k0_t4 : Fin k0_t4_loop.trips) (c1_i32_252 : BitVec 32) : Fin 2 → Nat :=
  let c0_i32_13 : BitVec 32 := 0#32
  let c1_i32_15 : BitVec 32 := 1#32
  let arg13 : BitVec 32 := Scf.iv c0_i32_13 c1_i32_15 k0_t4
  let c16_i32_239 : BitVec 32 := 16#32
  let v288 : BitVec 32 := Scalar.muli arg13 c16_i32_239
  let c3_i32_240 : BitVec 32 := 3#32
  let v289 : BitVec 32 := Scalar.addi v288 c3_i32_240
  let c5_i32_251 : BitVec 32 := 5#32
  let v314 : BitVec 32 := Scalar.muli v289 c5_i32_251
  let v315 : BitVec 32 := Scalar.addi v314 c1_i32_252
  let c0_i32_255 : BitVec 32 := 0#32
  ![v315.toNat, 0]
def k0_off291 (v325 : BitVec 32) : Fin 2 → Nat :=
  let c0_i32_260 : BitVec 32 := 0#32
  ![v325.toNat, 0]

def k0_chk118 (v325 : BitVec 32) : Prop :=
  (∀ a, (k0_off291 v325) a + S1x64.size a ≤ S1000000x64.size a)
instance k0_chk118.dec : ∀ (v325 : BitVec 32), Decidable (k0_chk118 v325) := fun v325 => decidable_of_iff' _ (Iff.of_eq (k0_chk118.eq_1 v325))
theorem k0_off291_inb : ∀ (v325 : BitVec 32) (k0_hw118 : k0_chk118 v325), ∀ a, (k0_off291 v325) a + S1x64.size a ≤ S1000000x64.size a := fun v325 k0_hw118 => k0_hw118

def k0_off292 (k0_t4 : Fin k0_t4_loop.trips) (c2_i32_258 : BitVec 32) : Fin 2 → Nat :=
  let c0_i32_13 : BitVec 32 := 0#32
  let c1_i32_15 : BitVec 32 := 1#32
  let arg13 : BitVec 32 := Scf.iv c0_i32_13 c1_i32_15 k0_t4
  let c16_i32_239 : BitVec 32 := 16#32
  let v288 : BitVec 32 := Scalar.muli arg13 c16_i32_239
  let c3_i32_240 : BitVec 32 := 3#32
  let v289 : BitVec 32 := Scalar.addi v288 c3_i32_240
  let c5_i32_257 : BitVec 32 := 5#32
  let v326 : BitVec 32 := Scalar.muli v289 c5_i32_257
  let v327 : BitVec 32 := Scalar.addi v326 c2_i32_258
  let c0_i32_261 : BitVec 32 := 0#32
  ![v327.toNat, 0]
def k0_off293 (v337 : BitVec 32) : Fin 2 → Nat :=
  let c0_i32_266 : BitVec 32 := 0#32
  ![v337.toNat, 0]

def k0_chk119 (v337 : BitVec 32) : Prop :=
  (∀ a, (k0_off293 v337) a + S1x64.size a ≤ S1000000x64.size a)
instance k0_chk119.dec : ∀ (v337 : BitVec 32), Decidable (k0_chk119 v337) := fun v337 => decidable_of_iff' _ (Iff.of_eq (k0_chk119.eq_1 v337))
theorem k0_off293_inb : ∀ (v337 : BitVec 32) (k0_hw119 : k0_chk119 v337), ∀ a, (k0_off293 v337) a + S1x64.size a ≤ S1000000x64.size a := fun v337 k0_hw119 => k0_hw119

def k0_off294 (k0_t4 : Fin k0_t4_loop.trips) (c3_i32_264 : BitVec 32) : Fin 2 → Nat :=
  let c0_i32_13 : BitVec 32 := 0#32
  let c1_i32_15 : BitVec 32 := 1#32
  let arg13 : BitVec 32 := Scf.iv c0_i32_13 c1_i32_15 k0_t4
  let c16_i32_239 : BitVec 32 := 16#32
  let v288 : BitVec 32 := Scalar.muli arg13 c16_i32_239
  let c3_i32_240 : BitVec 32 := 3#32
  let v289 : BitVec 32 := Scalar.addi v288 c3_i32_240
  let c5_i32_263 : BitVec 32 := 5#32
  let v338 : BitVec 32 := Scalar.muli v289 c5_i32_263
  let v339 : BitVec 32 := Scalar.addi v338 c3_i32_264
  let c0_i32_267 : BitVec 32 := 0#32
  ![v339.toNat, 0]
def k0_off295 (v349 : BitVec 32) : Fin 2 → Nat :=
  let c0_i32_272 : BitVec 32 := 0#32
  ![v349.toNat, 0]

def k0_chk120 (v349 : BitVec 32) : Prop :=
  (∀ a, (k0_off295 v349) a + S1x64.size a ≤ S1000000x64.size a)
instance k0_chk120.dec : ∀ (v349 : BitVec 32), Decidable (k0_chk120 v349) := fun v349 => decidable_of_iff' _ (Iff.of_eq (k0_chk120.eq_1 v349))
theorem k0_off295_inb : ∀ (v349 : BitVec 32) (k0_hw120 : k0_chk120 v349), ∀ a, (k0_off295 v349) a + S1x64.size a ≤ S1000000x64.size a := fun v349 k0_hw120 => k0_hw120

def k0_off296 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_239 : BitVec 32 := 16#32
  let v288 : BitVec 32 := Scalar.muli arg13 c16_i32_239
  let c3_i32_240 : BitVec 32 := 3#32
  let v289 : BitVec 32 := Scalar.addi v288 c3_i32_240
  let c5_i32_269 : BitVec 32 := 5#32
  let v350 : BitVec 32 := Scalar.muli v289 c5_i32_269
  let c4_i32_270 : BitVec 32 := 4#32
  let v351 : BitVec 32 := Scalar.addi v350 c4_i32_270
  let c0_i32_273 : BitVec 32 := 0#32
  ![v351.toNat, 0]
def k0_off297 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_275 : BitVec 32 := 16#32
  let v360 : BitVec 32 := Scalar.muli arg13 c16_i32_275
  let c4_i32_276 : BitVec 32 := 4#32
  let v361 : BitVec 32 := Scalar.addi v360 c4_i32_276
  let c0_i32_277 : BitVec 32 := 0#32
  ![v361.toNat, 0]
def k0_off298 (v363 : BitVec 32) : Fin 2 → Nat :=
  let c0_i32_278 : BitVec 32 := 0#32
  ![v363.toNat, 0]

def k0_chk121 (v363 : BitVec 32) : Prop :=
  (∀ a, (k0_off298 v363) a + S1x64.size a ≤ S1000000x64.size a)
instance k0_chk121.dec : ∀ (v363 : BitVec 32), Decidable (k0_chk121 v363) := fun v363 => decidable_of_iff' _ (Iff.of_eq (k0_chk121.eq_1 v363))
theorem k0_off298_inb : ∀ (v363 : BitVec 32) (k0_hw121 : k0_chk121 v363), ∀ a, (k0_off298 v363) a + S1x64.size a ≤ S1000000x64.size a := fun v363 k0_hw121 => k0_hw121

def k0_off299 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_275 : BitVec 32 := 16#32
  let v360 : BitVec 32 := Scalar.muli arg13 c16_i32_275
  let c4_i32_276 : BitVec 32 := 4#32
  let v361 : BitVec 32 := Scalar.addi v360 c4_i32_276
  let c0_i32_279 : BitVec 32 := 0#32
  ![v361.toNat, 0]
def k0_off300 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_275 : BitVec 32 := 16#32
  let v360 : BitVec 32 := Scalar.muli arg13 c16_i32_275
  let c4_i32_276 : BitVec 32 := 4#32
  let v361 : BitVec 32 := Scalar.addi v360 c4_i32_276
  let c5_i32_281 : BitVec 32 := 5#32
  let v374 : BitVec 32 := Scalar.muli v361 c5_i32_281
  let c0_i32_282 : BitVec 32 := 0#32
  let v375 : BitVec 32 := Scalar.addi v374 c0_i32_282
  let c0_i32_283 : BitVec 32 := 0#32
  ![v375.toNat, 0]
def k0_off301 (v373 : BitVec 32) : Fin 2 → Nat :=
  let c0_i32_284 : BitVec 32 := 0#32
  ![v373.toNat, 0]

def k0_chk122 (v373 : BitVec 32) : Prop :=
  (∀ a, (k0_off301 v373) a + S1x64.size a ≤ S1000000x64.size a)
instance k0_chk122.dec : ∀ (v373 : BitVec 32), Decidable (k0_chk122 v373) := fun v373 => decidable_of_iff' _ (Iff.of_eq (k0_chk122.eq_1 v373))
theorem k0_off301_inb : ∀ (v373 : BitVec 32) (k0_hw122 : k0_chk122 v373), ∀ a, (k0_off301 v373) a + S1x64.size a ≤ S1000000x64.size a := fun v373 k0_hw122 => k0_hw122

def k0_off302 (k0_t4 : Fin k0_t4_loop.trips) (c0_i32_282 : BitVec 32) : Fin 2 → Nat :=
  let c0_i32_13 : BitVec 32 := 0#32
  let c1_i32_15 : BitVec 32 := 1#32
  let arg13 : BitVec 32 := Scf.iv c0_i32_13 c1_i32_15 k0_t4
  let c16_i32_275 : BitVec 32 := 16#32
  let v360 : BitVec 32 := Scalar.muli arg13 c16_i32_275
  let c4_i32_276 : BitVec 32 := 4#32
  let v361 : BitVec 32 := Scalar.addi v360 c4_i32_276
  let c5_i32_281 : BitVec 32 := 5#32
  let v374 : BitVec 32 := Scalar.muli v361 c5_i32_281
  let v375 : BitVec 32 := Scalar.addi v374 c0_i32_282
  let c0_i32_285 : BitVec 32 := 0#32
  ![v375.toNat, 0]
def k0_off303 (v385 : BitVec 32) : Fin 2 → Nat :=
  let c0_i32_290 : BitVec 32 := 0#32
  ![v385.toNat, 0]

def k0_chk123 (v385 : BitVec 32) : Prop :=
  (∀ a, (k0_off303 v385) a + S1x64.size a ≤ S1000000x64.size a)
instance k0_chk123.dec : ∀ (v385 : BitVec 32), Decidable (k0_chk123 v385) := fun v385 => decidable_of_iff' _ (Iff.of_eq (k0_chk123.eq_1 v385))
theorem k0_off303_inb : ∀ (v385 : BitVec 32) (k0_hw123 : k0_chk123 v385), ∀ a, (k0_off303 v385) a + S1x64.size a ≤ S1000000x64.size a := fun v385 k0_hw123 => k0_hw123

def k0_off304 (k0_t4 : Fin k0_t4_loop.trips) (c1_i32_288 : BitVec 32) : Fin 2 → Nat :=
  let c0_i32_13 : BitVec 32 := 0#32
  let c1_i32_15 : BitVec 32 := 1#32
  let arg13 : BitVec 32 := Scf.iv c0_i32_13 c1_i32_15 k0_t4
  let c16_i32_275 : BitVec 32 := 16#32
  let v360 : BitVec 32 := Scalar.muli arg13 c16_i32_275
  let c4_i32_276 : BitVec 32 := 4#32
  let v361 : BitVec 32 := Scalar.addi v360 c4_i32_276
  let c5_i32_287 : BitVec 32 := 5#32
  let v386 : BitVec 32 := Scalar.muli v361 c5_i32_287
  let v387 : BitVec 32 := Scalar.addi v386 c1_i32_288
  let c0_i32_291 : BitVec 32 := 0#32
  ![v387.toNat, 0]
def k0_off305 (v397 : BitVec 32) : Fin 2 → Nat :=
  let c0_i32_296 : BitVec 32 := 0#32
  ![v397.toNat, 0]

def k0_chk124 (v397 : BitVec 32) : Prop :=
  (∀ a, (k0_off305 v397) a + S1x64.size a ≤ S1000000x64.size a)
instance k0_chk124.dec : ∀ (v397 : BitVec 32), Decidable (k0_chk124 v397) := fun v397 => decidable_of_iff' _ (Iff.of_eq (k0_chk124.eq_1 v397))
theorem k0_off305_inb : ∀ (v397 : BitVec 32) (k0_hw124 : k0_chk124 v397), ∀ a, (k0_off305 v397) a + S1x64.size a ≤ S1000000x64.size a := fun v397 k0_hw124 => k0_hw124

def k0_off306 (k0_t4 : Fin k0_t4_loop.trips) (c2_i32_294 : BitVec 32) : Fin 2 → Nat :=
  let c0_i32_13 : BitVec 32 := 0#32
  let c1_i32_15 : BitVec 32 := 1#32
  let arg13 : BitVec 32 := Scf.iv c0_i32_13 c1_i32_15 k0_t4
  let c16_i32_275 : BitVec 32 := 16#32
  let v360 : BitVec 32 := Scalar.muli arg13 c16_i32_275
  let c4_i32_276 : BitVec 32 := 4#32
  let v361 : BitVec 32 := Scalar.addi v360 c4_i32_276
  let c5_i32_293 : BitVec 32 := 5#32
  let v398 : BitVec 32 := Scalar.muli v361 c5_i32_293
  let v399 : BitVec 32 := Scalar.addi v398 c2_i32_294
  let c0_i32_297 : BitVec 32 := 0#32
  ![v399.toNat, 0]
def k0_off307 (v409 : BitVec 32) : Fin 2 → Nat :=
  let c0_i32_302 : BitVec 32 := 0#32
  ![v409.toNat, 0]

def k0_chk125 (v409 : BitVec 32) : Prop :=
  (∀ a, (k0_off307 v409) a + S1x64.size a ≤ S1000000x64.size a)
instance k0_chk125.dec : ∀ (v409 : BitVec 32), Decidable (k0_chk125 v409) := fun v409 => decidable_of_iff' _ (Iff.of_eq (k0_chk125.eq_1 v409))
theorem k0_off307_inb : ∀ (v409 : BitVec 32) (k0_hw125 : k0_chk125 v409), ∀ a, (k0_off307 v409) a + S1x64.size a ≤ S1000000x64.size a := fun v409 k0_hw125 => k0_hw125

def k0_off308 (k0_t4 : Fin k0_t4_loop.trips) (c3_i32_300 : BitVec 32) : Fin 2 → Nat :=
  let c0_i32_13 : BitVec 32 := 0#32
  let c1_i32_15 : BitVec 32 := 1#32
  let arg13 : BitVec 32 := Scf.iv c0_i32_13 c1_i32_15 k0_t4
  let c16_i32_275 : BitVec 32 := 16#32
  let v360 : BitVec 32 := Scalar.muli arg13 c16_i32_275
  let c4_i32_276 : BitVec 32 := 4#32
  let v361 : BitVec 32 := Scalar.addi v360 c4_i32_276
  let c5_i32_299 : BitVec 32 := 5#32
  let v410 : BitVec 32 := Scalar.muli v361 c5_i32_299
  let v411 : BitVec 32 := Scalar.addi v410 c3_i32_300
  let c0_i32_303 : BitVec 32 := 0#32
  ![v411.toNat, 0]
def k0_off309 (v421 : BitVec 32) : Fin 2 → Nat :=
  let c0_i32_308 : BitVec 32 := 0#32
  ![v421.toNat, 0]

def k0_chk126 (v421 : BitVec 32) : Prop :=
  (∀ a, (k0_off309 v421) a + S1x64.size a ≤ S1000000x64.size a)
instance k0_chk126.dec : ∀ (v421 : BitVec 32), Decidable (k0_chk126 v421) := fun v421 => decidable_of_iff' _ (Iff.of_eq (k0_chk126.eq_1 v421))
theorem k0_off309_inb : ∀ (v421 : BitVec 32) (k0_hw126 : k0_chk126 v421), ∀ a, (k0_off309 v421) a + S1x64.size a ≤ S1000000x64.size a := fun v421 k0_hw126 => k0_hw126

def k0_off310 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_275 : BitVec 32 := 16#32
  let v360 : BitVec 32 := Scalar.muli arg13 c16_i32_275
  let c4_i32_276 : BitVec 32 := 4#32
  let v361 : BitVec 32 := Scalar.addi v360 c4_i32_276
  let c5_i32_305 : BitVec 32 := 5#32
  let v422 : BitVec 32 := Scalar.muli v361 c5_i32_305
  let c4_i32_306 : BitVec 32 := 4#32
  let v423 : BitVec 32 := Scalar.addi v422 c4_i32_306
  let c0_i32_309 : BitVec 32 := 0#32
  ![v423.toNat, 0]
def k0_off311 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_311 : BitVec 32 := 16#32
  let v432 : BitVec 32 := Scalar.muli arg13 c16_i32_311
  let c5_i32_312 : BitVec 32 := 5#32
  let v433 : BitVec 32 := Scalar.addi v432 c5_i32_312
  let c0_i32_313 : BitVec 32 := 0#32
  ![v433.toNat, 0]
def k0_off312 (v435 : BitVec 32) : Fin 2 → Nat :=
  let c0_i32_314 : BitVec 32 := 0#32
  ![v435.toNat, 0]

def k0_chk127 (v435 : BitVec 32) : Prop :=
  (∀ a, (k0_off312 v435) a + S1x64.size a ≤ S1000000x64.size a)
instance k0_chk127.dec : ∀ (v435 : BitVec 32), Decidable (k0_chk127 v435) := fun v435 => decidable_of_iff' _ (Iff.of_eq (k0_chk127.eq_1 v435))
theorem k0_off312_inb : ∀ (v435 : BitVec 32) (k0_hw127 : k0_chk127 v435), ∀ a, (k0_off312 v435) a + S1x64.size a ≤ S1000000x64.size a := fun v435 k0_hw127 => k0_hw127

def k0_off313 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_311 : BitVec 32 := 16#32
  let v432 : BitVec 32 := Scalar.muli arg13 c16_i32_311
  let c5_i32_312 : BitVec 32 := 5#32
  let v433 : BitVec 32 := Scalar.addi v432 c5_i32_312
  let c0_i32_315 : BitVec 32 := 0#32
  ![v433.toNat, 0]
def k0_off314 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_311 : BitVec 32 := 16#32
  let v432 : BitVec 32 := Scalar.muli arg13 c16_i32_311
  let c5_i32_312 : BitVec 32 := 5#32
  let v433 : BitVec 32 := Scalar.addi v432 c5_i32_312
  let c5_i32_317 : BitVec 32 := 5#32
  let v446 : BitVec 32 := Scalar.muli v433 c5_i32_317
  let c0_i32_318 : BitVec 32 := 0#32
  let v447 : BitVec 32 := Scalar.addi v446 c0_i32_318
  let c0_i32_319 : BitVec 32 := 0#32
  ![v447.toNat, 0]
def k0_off315 (v445 : BitVec 32) : Fin 2 → Nat :=
  let c0_i32_320 : BitVec 32 := 0#32
  ![v445.toNat, 0]

def k0_chk128 (v445 : BitVec 32) : Prop :=
  (∀ a, (k0_off315 v445) a + S1x64.size a ≤ S1000000x64.size a)
instance k0_chk128.dec : ∀ (v445 : BitVec 32), Decidable (k0_chk128 v445) := fun v445 => decidable_of_iff' _ (Iff.of_eq (k0_chk128.eq_1 v445))
theorem k0_off315_inb : ∀ (v445 : BitVec 32) (k0_hw128 : k0_chk128 v445), ∀ a, (k0_off315 v445) a + S1x64.size a ≤ S1000000x64.size a := fun v445 k0_hw128 => k0_hw128

def k0_off316 (k0_t4 : Fin k0_t4_loop.trips) (c0_i32_318 : BitVec 32) : Fin 2 → Nat :=
  let c0_i32_13 : BitVec 32 := 0#32
  let c1_i32_15 : BitVec 32 := 1#32
  let arg13 : BitVec 32 := Scf.iv c0_i32_13 c1_i32_15 k0_t4
  let c16_i32_311 : BitVec 32 := 16#32
  let v432 : BitVec 32 := Scalar.muli arg13 c16_i32_311
  let c5_i32_312 : BitVec 32 := 5#32
  let v433 : BitVec 32 := Scalar.addi v432 c5_i32_312
  let c5_i32_317 : BitVec 32 := 5#32
  let v446 : BitVec 32 := Scalar.muli v433 c5_i32_317
  let v447 : BitVec 32 := Scalar.addi v446 c0_i32_318
  let c0_i32_321 : BitVec 32 := 0#32
  ![v447.toNat, 0]
def k0_off317 (v457 : BitVec 32) : Fin 2 → Nat :=
  let c0_i32_326 : BitVec 32 := 0#32
  ![v457.toNat, 0]

def k0_chk129 (v457 : BitVec 32) : Prop :=
  (∀ a, (k0_off317 v457) a + S1x64.size a ≤ S1000000x64.size a)
instance k0_chk129.dec : ∀ (v457 : BitVec 32), Decidable (k0_chk129 v457) := fun v457 => decidable_of_iff' _ (Iff.of_eq (k0_chk129.eq_1 v457))
theorem k0_off317_inb : ∀ (v457 : BitVec 32) (k0_hw129 : k0_chk129 v457), ∀ a, (k0_off317 v457) a + S1x64.size a ≤ S1000000x64.size a := fun v457 k0_hw129 => k0_hw129

def k0_off318 (k0_t4 : Fin k0_t4_loop.trips) (c1_i32_324 : BitVec 32) : Fin 2 → Nat :=
  let c0_i32_13 : BitVec 32 := 0#32
  let c1_i32_15 : BitVec 32 := 1#32
  let arg13 : BitVec 32 := Scf.iv c0_i32_13 c1_i32_15 k0_t4
  let c16_i32_311 : BitVec 32 := 16#32
  let v432 : BitVec 32 := Scalar.muli arg13 c16_i32_311
  let c5_i32_312 : BitVec 32 := 5#32
  let v433 : BitVec 32 := Scalar.addi v432 c5_i32_312
  let c5_i32_323 : BitVec 32 := 5#32
  let v458 : BitVec 32 := Scalar.muli v433 c5_i32_323
  let v459 : BitVec 32 := Scalar.addi v458 c1_i32_324
  let c0_i32_327 : BitVec 32 := 0#32
  ![v459.toNat, 0]
def k0_off319 (v469 : BitVec 32) : Fin 2 → Nat :=
  let c0_i32_332 : BitVec 32 := 0#32
  ![v469.toNat, 0]

def k0_chk130 (v469 : BitVec 32) : Prop :=
  (∀ a, (k0_off319 v469) a + S1x64.size a ≤ S1000000x64.size a)
instance k0_chk130.dec : ∀ (v469 : BitVec 32), Decidable (k0_chk130 v469) := fun v469 => decidable_of_iff' _ (Iff.of_eq (k0_chk130.eq_1 v469))
theorem k0_off319_inb : ∀ (v469 : BitVec 32) (k0_hw130 : k0_chk130 v469), ∀ a, (k0_off319 v469) a + S1x64.size a ≤ S1000000x64.size a := fun v469 k0_hw130 => k0_hw130

def k0_off320 (k0_t4 : Fin k0_t4_loop.trips) (c2_i32_330 : BitVec 32) : Fin 2 → Nat :=
  let c0_i32_13 : BitVec 32 := 0#32
  let c1_i32_15 : BitVec 32 := 1#32
  let arg13 : BitVec 32 := Scf.iv c0_i32_13 c1_i32_15 k0_t4
  let c16_i32_311 : BitVec 32 := 16#32
  let v432 : BitVec 32 := Scalar.muli arg13 c16_i32_311
  let c5_i32_312 : BitVec 32 := 5#32
  let v433 : BitVec 32 := Scalar.addi v432 c5_i32_312
  let c5_i32_329 : BitVec 32 := 5#32
  let v470 : BitVec 32 := Scalar.muli v433 c5_i32_329
  let v471 : BitVec 32 := Scalar.addi v470 c2_i32_330
  let c0_i32_333 : BitVec 32 := 0#32
  ![v471.toNat, 0]
def k0_off321 (v481 : BitVec 32) : Fin 2 → Nat :=
  let c0_i32_338 : BitVec 32 := 0#32
  ![v481.toNat, 0]

def k0_chk131 (v481 : BitVec 32) : Prop :=
  (∀ a, (k0_off321 v481) a + S1x64.size a ≤ S1000000x64.size a)
instance k0_chk131.dec : ∀ (v481 : BitVec 32), Decidable (k0_chk131 v481) := fun v481 => decidable_of_iff' _ (Iff.of_eq (k0_chk131.eq_1 v481))
theorem k0_off321_inb : ∀ (v481 : BitVec 32) (k0_hw131 : k0_chk131 v481), ∀ a, (k0_off321 v481) a + S1x64.size a ≤ S1000000x64.size a := fun v481 k0_hw131 => k0_hw131

def k0_off322 (k0_t4 : Fin k0_t4_loop.trips) (c3_i32_336 : BitVec 32) : Fin 2 → Nat :=
  let c0_i32_13 : BitVec 32 := 0#32
  let c1_i32_15 : BitVec 32 := 1#32
  let arg13 : BitVec 32 := Scf.iv c0_i32_13 c1_i32_15 k0_t4
  let c16_i32_311 : BitVec 32 := 16#32
  let v432 : BitVec 32 := Scalar.muli arg13 c16_i32_311
  let c5_i32_312 : BitVec 32 := 5#32
  let v433 : BitVec 32 := Scalar.addi v432 c5_i32_312
  let c5_i32_335 : BitVec 32 := 5#32
  let v482 : BitVec 32 := Scalar.muli v433 c5_i32_335
  let v483 : BitVec 32 := Scalar.addi v482 c3_i32_336
  let c0_i32_339 : BitVec 32 := 0#32
  ![v483.toNat, 0]
def k0_off323 (v493 : BitVec 32) : Fin 2 → Nat :=
  let c0_i32_344 : BitVec 32 := 0#32
  ![v493.toNat, 0]

def k0_chk132 (v493 : BitVec 32) : Prop :=
  (∀ a, (k0_off323 v493) a + S1x64.size a ≤ S1000000x64.size a)
instance k0_chk132.dec : ∀ (v493 : BitVec 32), Decidable (k0_chk132 v493) := fun v493 => decidable_of_iff' _ (Iff.of_eq (k0_chk132.eq_1 v493))
theorem k0_off323_inb : ∀ (v493 : BitVec 32) (k0_hw132 : k0_chk132 v493), ∀ a, (k0_off323 v493) a + S1x64.size a ≤ S1000000x64.size a := fun v493 k0_hw132 => k0_hw132

def k0_off324 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_311 : BitVec 32 := 16#32
  let v432 : BitVec 32 := Scalar.muli arg13 c16_i32_311
  let c5_i32_312 : BitVec 32 := 5#32
  let v433 : BitVec 32 := Scalar.addi v432 c5_i32_312
  let c5_i32_341 : BitVec 32 := 5#32
  let v494 : BitVec 32 := Scalar.muli v433 c5_i32_341
  let c4_i32_342 : BitVec 32 := 4#32
  let v495 : BitVec 32 := Scalar.addi v494 c4_i32_342
  let c0_i32_345 : BitVec 32 := 0#32
  ![v495.toNat, 0]
def k0_off325 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_347 : BitVec 32 := 16#32
  let v504 : BitVec 32 := Scalar.muli arg13 c16_i32_347
  let c6_i32 : BitVec 32 := 6#32
  let v505 : BitVec 32 := Scalar.addi v504 c6_i32
  let c0_i32_348 : BitVec 32 := 0#32
  ![v505.toNat, 0]
def k0_off326 (v507 : BitVec 32) : Fin 2 → Nat :=
  let c0_i32_349 : BitVec 32 := 0#32
  ![v507.toNat, 0]

def k0_chk133 (v507 : BitVec 32) : Prop :=
  (∀ a, (k0_off326 v507) a + S1x64.size a ≤ S1000000x64.size a)
instance k0_chk133.dec : ∀ (v507 : BitVec 32), Decidable (k0_chk133 v507) := fun v507 => decidable_of_iff' _ (Iff.of_eq (k0_chk133.eq_1 v507))
theorem k0_off326_inb : ∀ (v507 : BitVec 32) (k0_hw133 : k0_chk133 v507), ∀ a, (k0_off326 v507) a + S1x64.size a ≤ S1000000x64.size a := fun v507 k0_hw133 => k0_hw133

def k0_off327 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_347 : BitVec 32 := 16#32
  let v504 : BitVec 32 := Scalar.muli arg13 c16_i32_347
  let c6_i32 : BitVec 32 := 6#32
  let v505 : BitVec 32 := Scalar.addi v504 c6_i32
  let c0_i32_350 : BitVec 32 := 0#32
  ![v505.toNat, 0]
def k0_off328 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_347 : BitVec 32 := 16#32
  let v504 : BitVec 32 := Scalar.muli arg13 c16_i32_347
  let c6_i32 : BitVec 32 := 6#32
  let v505 : BitVec 32 := Scalar.addi v504 c6_i32
  let c5_i32_352 : BitVec 32 := 5#32
  let v518 : BitVec 32 := Scalar.muli v505 c5_i32_352
  let c0_i32_353 : BitVec 32 := 0#32
  let v519 : BitVec 32 := Scalar.addi v518 c0_i32_353
  let c0_i32_354 : BitVec 32 := 0#32
  ![v519.toNat, 0]
def k0_off329 (v517 : BitVec 32) : Fin 2 → Nat :=
  let c0_i32_355 : BitVec 32 := 0#32
  ![v517.toNat, 0]

def k0_chk134 (v517 : BitVec 32) : Prop :=
  (∀ a, (k0_off329 v517) a + S1x64.size a ≤ S1000000x64.size a)
instance k0_chk134.dec : ∀ (v517 : BitVec 32), Decidable (k0_chk134 v517) := fun v517 => decidable_of_iff' _ (Iff.of_eq (k0_chk134.eq_1 v517))
theorem k0_off329_inb : ∀ (v517 : BitVec 32) (k0_hw134 : k0_chk134 v517), ∀ a, (k0_off329 v517) a + S1x64.size a ≤ S1000000x64.size a := fun v517 k0_hw134 => k0_hw134

def k0_off330 (k0_t4 : Fin k0_t4_loop.trips) (c0_i32_353 : BitVec 32) : Fin 2 → Nat :=
  let c0_i32_13 : BitVec 32 := 0#32
  let c1_i32_15 : BitVec 32 := 1#32
  let arg13 : BitVec 32 := Scf.iv c0_i32_13 c1_i32_15 k0_t4
  let c16_i32_347 : BitVec 32 := 16#32
  let v504 : BitVec 32 := Scalar.muli arg13 c16_i32_347
  let c6_i32 : BitVec 32 := 6#32
  let v505 : BitVec 32 := Scalar.addi v504 c6_i32
  let c5_i32_352 : BitVec 32 := 5#32
  let v518 : BitVec 32 := Scalar.muli v505 c5_i32_352
  let v519 : BitVec 32 := Scalar.addi v518 c0_i32_353
  let c0_i32_356 : BitVec 32 := 0#32
  ![v519.toNat, 0]
def k0_off331 (v529 : BitVec 32) : Fin 2 → Nat :=
  let c0_i32_361 : BitVec 32 := 0#32
  ![v529.toNat, 0]

def k0_chk135 (v529 : BitVec 32) : Prop :=
  (∀ a, (k0_off331 v529) a + S1x64.size a ≤ S1000000x64.size a)
instance k0_chk135.dec : ∀ (v529 : BitVec 32), Decidable (k0_chk135 v529) := fun v529 => decidable_of_iff' _ (Iff.of_eq (k0_chk135.eq_1 v529))
theorem k0_off331_inb : ∀ (v529 : BitVec 32) (k0_hw135 : k0_chk135 v529), ∀ a, (k0_off331 v529) a + S1x64.size a ≤ S1000000x64.size a := fun v529 k0_hw135 => k0_hw135

def k0_off332 (k0_t4 : Fin k0_t4_loop.trips) (c1_i32_359 : BitVec 32) : Fin 2 → Nat :=
  let c0_i32_13 : BitVec 32 := 0#32
  let c1_i32_15 : BitVec 32 := 1#32
  let arg13 : BitVec 32 := Scf.iv c0_i32_13 c1_i32_15 k0_t4
  let c16_i32_347 : BitVec 32 := 16#32
  let v504 : BitVec 32 := Scalar.muli arg13 c16_i32_347
  let c6_i32 : BitVec 32 := 6#32
  let v505 : BitVec 32 := Scalar.addi v504 c6_i32
  let c5_i32_358 : BitVec 32 := 5#32
  let v530 : BitVec 32 := Scalar.muli v505 c5_i32_358
  let v531 : BitVec 32 := Scalar.addi v530 c1_i32_359
  let c0_i32_362 : BitVec 32 := 0#32
  ![v531.toNat, 0]
def k0_off333 (v541 : BitVec 32) : Fin 2 → Nat :=
  let c0_i32_367 : BitVec 32 := 0#32
  ![v541.toNat, 0]

def k0_chk136 (v541 : BitVec 32) : Prop :=
  (∀ a, (k0_off333 v541) a + S1x64.size a ≤ S1000000x64.size a)
instance k0_chk136.dec : ∀ (v541 : BitVec 32), Decidable (k0_chk136 v541) := fun v541 => decidable_of_iff' _ (Iff.of_eq (k0_chk136.eq_1 v541))
theorem k0_off333_inb : ∀ (v541 : BitVec 32) (k0_hw136 : k0_chk136 v541), ∀ a, (k0_off333 v541) a + S1x64.size a ≤ S1000000x64.size a := fun v541 k0_hw136 => k0_hw136

def k0_off334 (k0_t4 : Fin k0_t4_loop.trips) (c2_i32_365 : BitVec 32) : Fin 2 → Nat :=
  let c0_i32_13 : BitVec 32 := 0#32
  let c1_i32_15 : BitVec 32 := 1#32
  let arg13 : BitVec 32 := Scf.iv c0_i32_13 c1_i32_15 k0_t4
  let c16_i32_347 : BitVec 32 := 16#32
  let v504 : BitVec 32 := Scalar.muli arg13 c16_i32_347
  let c6_i32 : BitVec 32 := 6#32
  let v505 : BitVec 32 := Scalar.addi v504 c6_i32
  let c5_i32_364 : BitVec 32 := 5#32
  let v542 : BitVec 32 := Scalar.muli v505 c5_i32_364
  let v543 : BitVec 32 := Scalar.addi v542 c2_i32_365
  let c0_i32_368 : BitVec 32 := 0#32
  ![v543.toNat, 0]
def k0_off335 (v553 : BitVec 32) : Fin 2 → Nat :=
  let c0_i32_373 : BitVec 32 := 0#32
  ![v553.toNat, 0]

def k0_chk137 (v553 : BitVec 32) : Prop :=
  (∀ a, (k0_off335 v553) a + S1x64.size a ≤ S1000000x64.size a)
instance k0_chk137.dec : ∀ (v553 : BitVec 32), Decidable (k0_chk137 v553) := fun v553 => decidable_of_iff' _ (Iff.of_eq (k0_chk137.eq_1 v553))
theorem k0_off335_inb : ∀ (v553 : BitVec 32) (k0_hw137 : k0_chk137 v553), ∀ a, (k0_off335 v553) a + S1x64.size a ≤ S1000000x64.size a := fun v553 k0_hw137 => k0_hw137

def k0_off336 (k0_t4 : Fin k0_t4_loop.trips) (c3_i32_371 : BitVec 32) : Fin 2 → Nat :=
  let c0_i32_13 : BitVec 32 := 0#32
  let c1_i32_15 : BitVec 32 := 1#32
  let arg13 : BitVec 32 := Scf.iv c0_i32_13 c1_i32_15 k0_t4
  let c16_i32_347 : BitVec 32 := 16#32
  let v504 : BitVec 32 := Scalar.muli arg13 c16_i32_347
  let c6_i32 : BitVec 32 := 6#32
  let v505 : BitVec 32 := Scalar.addi v504 c6_i32
  let c5_i32_370 : BitVec 32 := 5#32
  let v554 : BitVec 32 := Scalar.muli v505 c5_i32_370
  let v555 : BitVec 32 := Scalar.addi v554 c3_i32_371
  let c0_i32_374 : BitVec 32 := 0#32
  ![v555.toNat, 0]
def k0_off337 (v565 : BitVec 32) : Fin 2 → Nat :=
  let c0_i32_379 : BitVec 32 := 0#32
  ![v565.toNat, 0]

def k0_chk138 (v565 : BitVec 32) : Prop :=
  (∀ a, (k0_off337 v565) a + S1x64.size a ≤ S1000000x64.size a)
instance k0_chk138.dec : ∀ (v565 : BitVec 32), Decidable (k0_chk138 v565) := fun v565 => decidable_of_iff' _ (Iff.of_eq (k0_chk138.eq_1 v565))
theorem k0_off337_inb : ∀ (v565 : BitVec 32) (k0_hw138 : k0_chk138 v565), ∀ a, (k0_off337 v565) a + S1x64.size a ≤ S1000000x64.size a := fun v565 k0_hw138 => k0_hw138

def k0_off338 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_347 : BitVec 32 := 16#32
  let v504 : BitVec 32 := Scalar.muli arg13 c16_i32_347
  let c6_i32 : BitVec 32 := 6#32
  let v505 : BitVec 32 := Scalar.addi v504 c6_i32
  let c5_i32_376 : BitVec 32 := 5#32
  let v566 : BitVec 32 := Scalar.muli v505 c5_i32_376
  let c4_i32_377 : BitVec 32 := 4#32
  let v567 : BitVec 32 := Scalar.addi v566 c4_i32_377
  let c0_i32_380 : BitVec 32 := 0#32
  ![v567.toNat, 0]
def k0_off339 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_382 : BitVec 32 := 16#32
  let v576 : BitVec 32 := Scalar.muli arg13 c16_i32_382
  let c7_i32 : BitVec 32 := 7#32
  let v577 : BitVec 32 := Scalar.addi v576 c7_i32
  let c0_i32_383 : BitVec 32 := 0#32
  ![v577.toNat, 0]
def k0_off340 (v579 : BitVec 32) : Fin 2 → Nat :=
  let c0_i32_384 : BitVec 32 := 0#32
  ![v579.toNat, 0]

def k0_chk139 (v579 : BitVec 32) : Prop :=
  (∀ a, (k0_off340 v579) a + S1x64.size a ≤ S1000000x64.size a)
instance k0_chk139.dec : ∀ (v579 : BitVec 32), Decidable (k0_chk139 v579) := fun v579 => decidable_of_iff' _ (Iff.of_eq (k0_chk139.eq_1 v579))
theorem k0_off340_inb : ∀ (v579 : BitVec 32) (k0_hw139 : k0_chk139 v579), ∀ a, (k0_off340 v579) a + S1x64.size a ≤ S1000000x64.size a := fun v579 k0_hw139 => k0_hw139

def k0_off341 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_382 : BitVec 32 := 16#32
  let v576 : BitVec 32 := Scalar.muli arg13 c16_i32_382
  let c7_i32 : BitVec 32 := 7#32
  let v577 : BitVec 32 := Scalar.addi v576 c7_i32
  let c0_i32_385 : BitVec 32 := 0#32
  ![v577.toNat, 0]
def k0_off342 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_382 : BitVec 32 := 16#32
  let v576 : BitVec 32 := Scalar.muli arg13 c16_i32_382
  let c7_i32 : BitVec 32 := 7#32
  let v577 : BitVec 32 := Scalar.addi v576 c7_i32
  let c5_i32_387 : BitVec 32 := 5#32
  let v590 : BitVec 32 := Scalar.muli v577 c5_i32_387
  let c0_i32_388 : BitVec 32 := 0#32
  let v591 : BitVec 32 := Scalar.addi v590 c0_i32_388
  let c0_i32_389 : BitVec 32 := 0#32
  ![v591.toNat, 0]
def k0_off343 (v589 : BitVec 32) : Fin 2 → Nat :=
  let c0_i32_390 : BitVec 32 := 0#32
  ![v589.toNat, 0]

def k0_chk140 (v589 : BitVec 32) : Prop :=
  (∀ a, (k0_off343 v589) a + S1x64.size a ≤ S1000000x64.size a)
instance k0_chk140.dec : ∀ (v589 : BitVec 32), Decidable (k0_chk140 v589) := fun v589 => decidable_of_iff' _ (Iff.of_eq (k0_chk140.eq_1 v589))
theorem k0_off343_inb : ∀ (v589 : BitVec 32) (k0_hw140 : k0_chk140 v589), ∀ a, (k0_off343 v589) a + S1x64.size a ≤ S1000000x64.size a := fun v589 k0_hw140 => k0_hw140

def k0_off344 (k0_t4 : Fin k0_t4_loop.trips) (c0_i32_388 : BitVec 32) : Fin 2 → Nat :=
  let c0_i32_13 : BitVec 32 := 0#32
  let c1_i32_15 : BitVec 32 := 1#32
  let arg13 : BitVec 32 := Scf.iv c0_i32_13 c1_i32_15 k0_t4
  let c16_i32_382 : BitVec 32 := 16#32
  let v576 : BitVec 32 := Scalar.muli arg13 c16_i32_382
  let c7_i32 : BitVec 32 := 7#32
  let v577 : BitVec 32 := Scalar.addi v576 c7_i32
  let c5_i32_387 : BitVec 32 := 5#32
  let v590 : BitVec 32 := Scalar.muli v577 c5_i32_387
  let v591 : BitVec 32 := Scalar.addi v590 c0_i32_388
  let c0_i32_391 : BitVec 32 := 0#32
  ![v591.toNat, 0]
def k0_off345 (v601 : BitVec 32) : Fin 2 → Nat :=
  let c0_i32_396 : BitVec 32 := 0#32
  ![v601.toNat, 0]

def k0_chk141 (v601 : BitVec 32) : Prop :=
  (∀ a, (k0_off345 v601) a + S1x64.size a ≤ S1000000x64.size a)
instance k0_chk141.dec : ∀ (v601 : BitVec 32), Decidable (k0_chk141 v601) := fun v601 => decidable_of_iff' _ (Iff.of_eq (k0_chk141.eq_1 v601))
theorem k0_off345_inb : ∀ (v601 : BitVec 32) (k0_hw141 : k0_chk141 v601), ∀ a, (k0_off345 v601) a + S1x64.size a ≤ S1000000x64.size a := fun v601 k0_hw141 => k0_hw141

def k0_off346 (k0_t4 : Fin k0_t4_loop.trips) (c1_i32_394 : BitVec 32) : Fin 2 → Nat :=
  let c0_i32_13 : BitVec 32 := 0#32
  let c1_i32_15 : BitVec 32 := 1#32
  let arg13 : BitVec 32 := Scf.iv c0_i32_13 c1_i32_15 k0_t4
  let c16_i32_382 : BitVec 32 := 16#32
  let v576 : BitVec 32 := Scalar.muli arg13 c16_i32_382
  let c7_i32 : BitVec 32 := 7#32
  let v577 : BitVec 32 := Scalar.addi v576 c7_i32
  let c5_i32_393 : BitVec 32 := 5#32
  let v602 : BitVec 32 := Scalar.muli v577 c5_i32_393
  let v603 : BitVec 32 := Scalar.addi v602 c1_i32_394
  let c0_i32_397 : BitVec 32 := 0#32
  ![v603.toNat, 0]
def k0_off347 (v613 : BitVec 32) : Fin 2 → Nat :=
  let c0_i32_402 : BitVec 32 := 0#32
  ![v613.toNat, 0]

def k0_chk142 (v613 : BitVec 32) : Prop :=
  (∀ a, (k0_off347 v613) a + S1x64.size a ≤ S1000000x64.size a)
instance k0_chk142.dec : ∀ (v613 : BitVec 32), Decidable (k0_chk142 v613) := fun v613 => decidable_of_iff' _ (Iff.of_eq (k0_chk142.eq_1 v613))
theorem k0_off347_inb : ∀ (v613 : BitVec 32) (k0_hw142 : k0_chk142 v613), ∀ a, (k0_off347 v613) a + S1x64.size a ≤ S1000000x64.size a := fun v613 k0_hw142 => k0_hw142

def k0_off348 (k0_t4 : Fin k0_t4_loop.trips) (c2_i32_400 : BitVec 32) : Fin 2 → Nat :=
  let c0_i32_13 : BitVec 32 := 0#32
  let c1_i32_15 : BitVec 32 := 1#32
  let arg13 : BitVec 32 := Scf.iv c0_i32_13 c1_i32_15 k0_t4
  let c16_i32_382 : BitVec 32 := 16#32
  let v576 : BitVec 32 := Scalar.muli arg13 c16_i32_382
  let c7_i32 : BitVec 32 := 7#32
  let v577 : BitVec 32 := Scalar.addi v576 c7_i32
  let c5_i32_399 : BitVec 32 := 5#32
  let v614 : BitVec 32 := Scalar.muli v577 c5_i32_399
  let v615 : BitVec 32 := Scalar.addi v614 c2_i32_400
  let c0_i32_403 : BitVec 32 := 0#32
  ![v615.toNat, 0]
def k0_off349 (v625 : BitVec 32) : Fin 2 → Nat :=
  let c0_i32_408 : BitVec 32 := 0#32
  ![v625.toNat, 0]

def k0_chk143 (v625 : BitVec 32) : Prop :=
  (∀ a, (k0_off349 v625) a + S1x64.size a ≤ S1000000x64.size a)
instance k0_chk143.dec : ∀ (v625 : BitVec 32), Decidable (k0_chk143 v625) := fun v625 => decidable_of_iff' _ (Iff.of_eq (k0_chk143.eq_1 v625))
theorem k0_off349_inb : ∀ (v625 : BitVec 32) (k0_hw143 : k0_chk143 v625), ∀ a, (k0_off349 v625) a + S1x64.size a ≤ S1000000x64.size a := fun v625 k0_hw143 => k0_hw143

def k0_off350 (k0_t4 : Fin k0_t4_loop.trips) (c3_i32_406 : BitVec 32) : Fin 2 → Nat :=
  let c0_i32_13 : BitVec 32 := 0#32
  let c1_i32_15 : BitVec 32 := 1#32
  let arg13 : BitVec 32 := Scf.iv c0_i32_13 c1_i32_15 k0_t4
  let c16_i32_382 : BitVec 32 := 16#32
  let v576 : BitVec 32 := Scalar.muli arg13 c16_i32_382
  let c7_i32 : BitVec 32 := 7#32
  let v577 : BitVec 32 := Scalar.addi v576 c7_i32
  let c5_i32_405 : BitVec 32 := 5#32
  let v626 : BitVec 32 := Scalar.muli v577 c5_i32_405
  let v627 : BitVec 32 := Scalar.addi v626 c3_i32_406
  let c0_i32_409 : BitVec 32 := 0#32
  ![v627.toNat, 0]
def k0_off351 (v637 : BitVec 32) : Fin 2 → Nat :=
  let c0_i32_414 : BitVec 32 := 0#32
  ![v637.toNat, 0]

def k0_chk144 (v637 : BitVec 32) : Prop :=
  (∀ a, (k0_off351 v637) a + S1x64.size a ≤ S1000000x64.size a)
instance k0_chk144.dec : ∀ (v637 : BitVec 32), Decidable (k0_chk144 v637) := fun v637 => decidable_of_iff' _ (Iff.of_eq (k0_chk144.eq_1 v637))
theorem k0_off351_inb : ∀ (v637 : BitVec 32) (k0_hw144 : k0_chk144 v637), ∀ a, (k0_off351 v637) a + S1x64.size a ≤ S1000000x64.size a := fun v637 k0_hw144 => k0_hw144

def k0_off352 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_382 : BitVec 32 := 16#32
  let v576 : BitVec 32 := Scalar.muli arg13 c16_i32_382
  let c7_i32 : BitVec 32 := 7#32
  let v577 : BitVec 32 := Scalar.addi v576 c7_i32
  let c5_i32_411 : BitVec 32 := 5#32
  let v638 : BitVec 32 := Scalar.muli v577 c5_i32_411
  let c4_i32_412 : BitVec 32 := 4#32
  let v639 : BitVec 32 := Scalar.addi v638 c4_i32_412
  let c0_i32_415 : BitVec 32 := 0#32
  ![v639.toNat, 0]
def k0_off353 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_417 : BitVec 32 := 16#32
  let v648 : BitVec 32 := Scalar.muli arg13 c16_i32_417
  let c8_i32 : BitVec 32 := 8#32
  let v649 : BitVec 32 := Scalar.addi v648 c8_i32
  let c0_i32_418 : BitVec 32 := 0#32
  ![v649.toNat, 0]
def k0_off354 (v651 : BitVec 32) : Fin 2 → Nat :=
  let c0_i32_419 : BitVec 32 := 0#32
  ![v651.toNat, 0]

def k0_chk145 (v651 : BitVec 32) : Prop :=
  (∀ a, (k0_off354 v651) a + S1x64.size a ≤ S1000000x64.size a)
instance k0_chk145.dec : ∀ (v651 : BitVec 32), Decidable (k0_chk145 v651) := fun v651 => decidable_of_iff' _ (Iff.of_eq (k0_chk145.eq_1 v651))
theorem k0_off354_inb : ∀ (v651 : BitVec 32) (k0_hw145 : k0_chk145 v651), ∀ a, (k0_off354 v651) a + S1x64.size a ≤ S1000000x64.size a := fun v651 k0_hw145 => k0_hw145

def k0_off355 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_417 : BitVec 32 := 16#32
  let v648 : BitVec 32 := Scalar.muli arg13 c16_i32_417
  let c8_i32 : BitVec 32 := 8#32
  let v649 : BitVec 32 := Scalar.addi v648 c8_i32
  let c0_i32_420 : BitVec 32 := 0#32
  ![v649.toNat, 0]
def k0_off356 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_417 : BitVec 32 := 16#32
  let v648 : BitVec 32 := Scalar.muli arg13 c16_i32_417
  let c8_i32 : BitVec 32 := 8#32
  let v649 : BitVec 32 := Scalar.addi v648 c8_i32
  let c5_i32_422 : BitVec 32 := 5#32
  let v662 : BitVec 32 := Scalar.muli v649 c5_i32_422
  let c0_i32_423 : BitVec 32 := 0#32
  let v663 : BitVec 32 := Scalar.addi v662 c0_i32_423
  let c0_i32_424 : BitVec 32 := 0#32
  ![v663.toNat, 0]
def k0_off357 (v661 : BitVec 32) : Fin 2 → Nat :=
  let c0_i32_425 : BitVec 32 := 0#32
  ![v661.toNat, 0]

def k0_chk146 (v661 : BitVec 32) : Prop :=
  (∀ a, (k0_off357 v661) a + S1x64.size a ≤ S1000000x64.size a)
instance k0_chk146.dec : ∀ (v661 : BitVec 32), Decidable (k0_chk146 v661) := fun v661 => decidable_of_iff' _ (Iff.of_eq (k0_chk146.eq_1 v661))
theorem k0_off357_inb : ∀ (v661 : BitVec 32) (k0_hw146 : k0_chk146 v661), ∀ a, (k0_off357 v661) a + S1x64.size a ≤ S1000000x64.size a := fun v661 k0_hw146 => k0_hw146

def k0_off358 (k0_t4 : Fin k0_t4_loop.trips) (c0_i32_423 : BitVec 32) : Fin 2 → Nat :=
  let c0_i32_13 : BitVec 32 := 0#32
  let c1_i32_15 : BitVec 32 := 1#32
  let arg13 : BitVec 32 := Scf.iv c0_i32_13 c1_i32_15 k0_t4
  let c16_i32_417 : BitVec 32 := 16#32
  let v648 : BitVec 32 := Scalar.muli arg13 c16_i32_417
  let c8_i32 : BitVec 32 := 8#32
  let v649 : BitVec 32 := Scalar.addi v648 c8_i32
  let c5_i32_422 : BitVec 32 := 5#32
  let v662 : BitVec 32 := Scalar.muli v649 c5_i32_422
  let v663 : BitVec 32 := Scalar.addi v662 c0_i32_423
  let c0_i32_426 : BitVec 32 := 0#32
  ![v663.toNat, 0]
def k0_off359 (v673 : BitVec 32) : Fin 2 → Nat :=
  let c0_i32_431 : BitVec 32 := 0#32
  ![v673.toNat, 0]

def k0_chk147 (v673 : BitVec 32) : Prop :=
  (∀ a, (k0_off359 v673) a + S1x64.size a ≤ S1000000x64.size a)
instance k0_chk147.dec : ∀ (v673 : BitVec 32), Decidable (k0_chk147 v673) := fun v673 => decidable_of_iff' _ (Iff.of_eq (k0_chk147.eq_1 v673))
theorem k0_off359_inb : ∀ (v673 : BitVec 32) (k0_hw147 : k0_chk147 v673), ∀ a, (k0_off359 v673) a + S1x64.size a ≤ S1000000x64.size a := fun v673 k0_hw147 => k0_hw147

def k0_off360 (k0_t4 : Fin k0_t4_loop.trips) (c1_i32_429 : BitVec 32) : Fin 2 → Nat :=
  let c0_i32_13 : BitVec 32 := 0#32
  let c1_i32_15 : BitVec 32 := 1#32
  let arg13 : BitVec 32 := Scf.iv c0_i32_13 c1_i32_15 k0_t4
  let c16_i32_417 : BitVec 32 := 16#32
  let v648 : BitVec 32 := Scalar.muli arg13 c16_i32_417
  let c8_i32 : BitVec 32 := 8#32
  let v649 : BitVec 32 := Scalar.addi v648 c8_i32
  let c5_i32_428 : BitVec 32 := 5#32
  let v674 : BitVec 32 := Scalar.muli v649 c5_i32_428
  let v675 : BitVec 32 := Scalar.addi v674 c1_i32_429
  let c0_i32_432 : BitVec 32 := 0#32
  ![v675.toNat, 0]
def k0_off361 (v685 : BitVec 32) : Fin 2 → Nat :=
  let c0_i32_437 : BitVec 32 := 0#32
  ![v685.toNat, 0]

def k0_chk148 (v685 : BitVec 32) : Prop :=
  (∀ a, (k0_off361 v685) a + S1x64.size a ≤ S1000000x64.size a)
instance k0_chk148.dec : ∀ (v685 : BitVec 32), Decidable (k0_chk148 v685) := fun v685 => decidable_of_iff' _ (Iff.of_eq (k0_chk148.eq_1 v685))
theorem k0_off361_inb : ∀ (v685 : BitVec 32) (k0_hw148 : k0_chk148 v685), ∀ a, (k0_off361 v685) a + S1x64.size a ≤ S1000000x64.size a := fun v685 k0_hw148 => k0_hw148

def k0_off362 (k0_t4 : Fin k0_t4_loop.trips) (c2_i32_435 : BitVec 32) : Fin 2 → Nat :=
  let c0_i32_13 : BitVec 32 := 0#32
  let c1_i32_15 : BitVec 32 := 1#32
  let arg13 : BitVec 32 := Scf.iv c0_i32_13 c1_i32_15 k0_t4
  let c16_i32_417 : BitVec 32 := 16#32
  let v648 : BitVec 32 := Scalar.muli arg13 c16_i32_417
  let c8_i32 : BitVec 32 := 8#32
  let v649 : BitVec 32 := Scalar.addi v648 c8_i32
  let c5_i32_434 : BitVec 32 := 5#32
  let v686 : BitVec 32 := Scalar.muli v649 c5_i32_434
  let v687 : BitVec 32 := Scalar.addi v686 c2_i32_435
  let c0_i32_438 : BitVec 32 := 0#32
  ![v687.toNat, 0]
def k0_off363 (v697 : BitVec 32) : Fin 2 → Nat :=
  let c0_i32_443 : BitVec 32 := 0#32
  ![v697.toNat, 0]

def k0_chk149 (v697 : BitVec 32) : Prop :=
  (∀ a, (k0_off363 v697) a + S1x64.size a ≤ S1000000x64.size a)
instance k0_chk149.dec : ∀ (v697 : BitVec 32), Decidable (k0_chk149 v697) := fun v697 => decidable_of_iff' _ (Iff.of_eq (k0_chk149.eq_1 v697))
theorem k0_off363_inb : ∀ (v697 : BitVec 32) (k0_hw149 : k0_chk149 v697), ∀ a, (k0_off363 v697) a + S1x64.size a ≤ S1000000x64.size a := fun v697 k0_hw149 => k0_hw149

def k0_off364 (k0_t4 : Fin k0_t4_loop.trips) (c3_i32_441 : BitVec 32) : Fin 2 → Nat :=
  let c0_i32_13 : BitVec 32 := 0#32
  let c1_i32_15 : BitVec 32 := 1#32
  let arg13 : BitVec 32 := Scf.iv c0_i32_13 c1_i32_15 k0_t4
  let c16_i32_417 : BitVec 32 := 16#32
  let v648 : BitVec 32 := Scalar.muli arg13 c16_i32_417
  let c8_i32 : BitVec 32 := 8#32
  let v649 : BitVec 32 := Scalar.addi v648 c8_i32
  let c5_i32_440 : BitVec 32 := 5#32
  let v698 : BitVec 32 := Scalar.muli v649 c5_i32_440
  let v699 : BitVec 32 := Scalar.addi v698 c3_i32_441
  let c0_i32_444 : BitVec 32 := 0#32
  ![v699.toNat, 0]
def k0_off365 (v709 : BitVec 32) : Fin 2 → Nat :=
  let c0_i32_449 : BitVec 32 := 0#32
  ![v709.toNat, 0]

def k0_chk150 (v709 : BitVec 32) : Prop :=
  (∀ a, (k0_off365 v709) a + S1x64.size a ≤ S1000000x64.size a)
instance k0_chk150.dec : ∀ (v709 : BitVec 32), Decidable (k0_chk150 v709) := fun v709 => decidable_of_iff' _ (Iff.of_eq (k0_chk150.eq_1 v709))
theorem k0_off365_inb : ∀ (v709 : BitVec 32) (k0_hw150 : k0_chk150 v709), ∀ a, (k0_off365 v709) a + S1x64.size a ≤ S1000000x64.size a := fun v709 k0_hw150 => k0_hw150

def k0_off366 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_417 : BitVec 32 := 16#32
  let v648 : BitVec 32 := Scalar.muli arg13 c16_i32_417
  let c8_i32 : BitVec 32 := 8#32
  let v649 : BitVec 32 := Scalar.addi v648 c8_i32
  let c5_i32_446 : BitVec 32 := 5#32
  let v710 : BitVec 32 := Scalar.muli v649 c5_i32_446
  let c4_i32_447 : BitVec 32 := 4#32
  let v711 : BitVec 32 := Scalar.addi v710 c4_i32_447
  let c0_i32_450 : BitVec 32 := 0#32
  ![v711.toNat, 0]
def k0_off367 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_452 : BitVec 32 := 16#32
  let v720 : BitVec 32 := Scalar.muli arg13 c16_i32_452
  let c9_i32 : BitVec 32 := 9#32
  let v721 : BitVec 32 := Scalar.addi v720 c9_i32
  let c0_i32_453 : BitVec 32 := 0#32
  ![v721.toNat, 0]
def k0_off368 (v723 : BitVec 32) : Fin 2 → Nat :=
  let c0_i32_454 : BitVec 32 := 0#32
  ![v723.toNat, 0]

def k0_chk151 (v723 : BitVec 32) : Prop :=
  (∀ a, (k0_off368 v723) a + S1x64.size a ≤ S1000000x64.size a)
instance k0_chk151.dec : ∀ (v723 : BitVec 32), Decidable (k0_chk151 v723) := fun v723 => decidable_of_iff' _ (Iff.of_eq (k0_chk151.eq_1 v723))
theorem k0_off368_inb : ∀ (v723 : BitVec 32) (k0_hw151 : k0_chk151 v723), ∀ a, (k0_off368 v723) a + S1x64.size a ≤ S1000000x64.size a := fun v723 k0_hw151 => k0_hw151

def k0_off369 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_452 : BitVec 32 := 16#32
  let v720 : BitVec 32 := Scalar.muli arg13 c16_i32_452
  let c9_i32 : BitVec 32 := 9#32
  let v721 : BitVec 32 := Scalar.addi v720 c9_i32
  let c0_i32_455 : BitVec 32 := 0#32
  ![v721.toNat, 0]
def k0_off370 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_452 : BitVec 32 := 16#32
  let v720 : BitVec 32 := Scalar.muli arg13 c16_i32_452
  let c9_i32 : BitVec 32 := 9#32
  let v721 : BitVec 32 := Scalar.addi v720 c9_i32
  let c5_i32_457 : BitVec 32 := 5#32
  let v734 : BitVec 32 := Scalar.muli v721 c5_i32_457
  let c0_i32_458 : BitVec 32 := 0#32
  let v735 : BitVec 32 := Scalar.addi v734 c0_i32_458
  let c0_i32_459 : BitVec 32 := 0#32
  ![v735.toNat, 0]
def k0_off371 (v733 : BitVec 32) : Fin 2 → Nat :=
  let c0_i32_460 : BitVec 32 := 0#32
  ![v733.toNat, 0]

def k0_chk152 (v733 : BitVec 32) : Prop :=
  (∀ a, (k0_off371 v733) a + S1x64.size a ≤ S1000000x64.size a)
instance k0_chk152.dec : ∀ (v733 : BitVec 32), Decidable (k0_chk152 v733) := fun v733 => decidable_of_iff' _ (Iff.of_eq (k0_chk152.eq_1 v733))
theorem k0_off371_inb : ∀ (v733 : BitVec 32) (k0_hw152 : k0_chk152 v733), ∀ a, (k0_off371 v733) a + S1x64.size a ≤ S1000000x64.size a := fun v733 k0_hw152 => k0_hw152

def k0_off372 (k0_t4 : Fin k0_t4_loop.trips) (c0_i32_458 : BitVec 32) : Fin 2 → Nat :=
  let c0_i32_13 : BitVec 32 := 0#32
  let c1_i32_15 : BitVec 32 := 1#32
  let arg13 : BitVec 32 := Scf.iv c0_i32_13 c1_i32_15 k0_t4
  let c16_i32_452 : BitVec 32 := 16#32
  let v720 : BitVec 32 := Scalar.muli arg13 c16_i32_452
  let c9_i32 : BitVec 32 := 9#32
  let v721 : BitVec 32 := Scalar.addi v720 c9_i32
  let c5_i32_457 : BitVec 32 := 5#32
  let v734 : BitVec 32 := Scalar.muli v721 c5_i32_457
  let v735 : BitVec 32 := Scalar.addi v734 c0_i32_458
  let c0_i32_461 : BitVec 32 := 0#32
  ![v735.toNat, 0]
def k0_off373 (v745 : BitVec 32) : Fin 2 → Nat :=
  let c0_i32_466 : BitVec 32 := 0#32
  ![v745.toNat, 0]

def k0_chk153 (v745 : BitVec 32) : Prop :=
  (∀ a, (k0_off373 v745) a + S1x64.size a ≤ S1000000x64.size a)
instance k0_chk153.dec : ∀ (v745 : BitVec 32), Decidable (k0_chk153 v745) := fun v745 => decidable_of_iff' _ (Iff.of_eq (k0_chk153.eq_1 v745))
theorem k0_off373_inb : ∀ (v745 : BitVec 32) (k0_hw153 : k0_chk153 v745), ∀ a, (k0_off373 v745) a + S1x64.size a ≤ S1000000x64.size a := fun v745 k0_hw153 => k0_hw153

def k0_off374 (k0_t4 : Fin k0_t4_loop.trips) (c1_i32_464 : BitVec 32) : Fin 2 → Nat :=
  let c0_i32_13 : BitVec 32 := 0#32
  let c1_i32_15 : BitVec 32 := 1#32
  let arg13 : BitVec 32 := Scf.iv c0_i32_13 c1_i32_15 k0_t4
  let c16_i32_452 : BitVec 32 := 16#32
  let v720 : BitVec 32 := Scalar.muli arg13 c16_i32_452
  let c9_i32 : BitVec 32 := 9#32
  let v721 : BitVec 32 := Scalar.addi v720 c9_i32
  let c5_i32_463 : BitVec 32 := 5#32
  let v746 : BitVec 32 := Scalar.muli v721 c5_i32_463
  let v747 : BitVec 32 := Scalar.addi v746 c1_i32_464
  let c0_i32_467 : BitVec 32 := 0#32
  ![v747.toNat, 0]
def k0_off375 (v757 : BitVec 32) : Fin 2 → Nat :=
  let c0_i32_472 : BitVec 32 := 0#32
  ![v757.toNat, 0]

def k0_chk154 (v757 : BitVec 32) : Prop :=
  (∀ a, (k0_off375 v757) a + S1x64.size a ≤ S1000000x64.size a)
instance k0_chk154.dec : ∀ (v757 : BitVec 32), Decidable (k0_chk154 v757) := fun v757 => decidable_of_iff' _ (Iff.of_eq (k0_chk154.eq_1 v757))
theorem k0_off375_inb : ∀ (v757 : BitVec 32) (k0_hw154 : k0_chk154 v757), ∀ a, (k0_off375 v757) a + S1x64.size a ≤ S1000000x64.size a := fun v757 k0_hw154 => k0_hw154

def k0_off376 (k0_t4 : Fin k0_t4_loop.trips) (c2_i32_470 : BitVec 32) : Fin 2 → Nat :=
  let c0_i32_13 : BitVec 32 := 0#32
  let c1_i32_15 : BitVec 32 := 1#32
  let arg13 : BitVec 32 := Scf.iv c0_i32_13 c1_i32_15 k0_t4
  let c16_i32_452 : BitVec 32 := 16#32
  let v720 : BitVec 32 := Scalar.muli arg13 c16_i32_452
  let c9_i32 : BitVec 32 := 9#32
  let v721 : BitVec 32 := Scalar.addi v720 c9_i32
  let c5_i32_469 : BitVec 32 := 5#32
  let v758 : BitVec 32 := Scalar.muli v721 c5_i32_469
  let v759 : BitVec 32 := Scalar.addi v758 c2_i32_470
  let c0_i32_473 : BitVec 32 := 0#32
  ![v759.toNat, 0]
def k0_off377 (v769 : BitVec 32) : Fin 2 → Nat :=
  let c0_i32_478 : BitVec 32 := 0#32
  ![v769.toNat, 0]

def k0_chk155 (v769 : BitVec 32) : Prop :=
  (∀ a, (k0_off377 v769) a + S1x64.size a ≤ S1000000x64.size a)
instance k0_chk155.dec : ∀ (v769 : BitVec 32), Decidable (k0_chk155 v769) := fun v769 => decidable_of_iff' _ (Iff.of_eq (k0_chk155.eq_1 v769))
theorem k0_off377_inb : ∀ (v769 : BitVec 32) (k0_hw155 : k0_chk155 v769), ∀ a, (k0_off377 v769) a + S1x64.size a ≤ S1000000x64.size a := fun v769 k0_hw155 => k0_hw155

def k0_off378 (k0_t4 : Fin k0_t4_loop.trips) (c3_i32_476 : BitVec 32) : Fin 2 → Nat :=
  let c0_i32_13 : BitVec 32 := 0#32
  let c1_i32_15 : BitVec 32 := 1#32
  let arg13 : BitVec 32 := Scf.iv c0_i32_13 c1_i32_15 k0_t4
  let c16_i32_452 : BitVec 32 := 16#32
  let v720 : BitVec 32 := Scalar.muli arg13 c16_i32_452
  let c9_i32 : BitVec 32 := 9#32
  let v721 : BitVec 32 := Scalar.addi v720 c9_i32
  let c5_i32_475 : BitVec 32 := 5#32
  let v770 : BitVec 32 := Scalar.muli v721 c5_i32_475
  let v771 : BitVec 32 := Scalar.addi v770 c3_i32_476
  let c0_i32_479 : BitVec 32 := 0#32
  ![v771.toNat, 0]
def k0_off379 (v781 : BitVec 32) : Fin 2 → Nat :=
  let c0_i32_484 : BitVec 32 := 0#32
  ![v781.toNat, 0]

def k0_chk156 (v781 : BitVec 32) : Prop :=
  (∀ a, (k0_off379 v781) a + S1x64.size a ≤ S1000000x64.size a)
instance k0_chk156.dec : ∀ (v781 : BitVec 32), Decidable (k0_chk156 v781) := fun v781 => decidable_of_iff' _ (Iff.of_eq (k0_chk156.eq_1 v781))
theorem k0_off379_inb : ∀ (v781 : BitVec 32) (k0_hw156 : k0_chk156 v781), ∀ a, (k0_off379 v781) a + S1x64.size a ≤ S1000000x64.size a := fun v781 k0_hw156 => k0_hw156

def k0_off380 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_452 : BitVec 32 := 16#32
  let v720 : BitVec 32 := Scalar.muli arg13 c16_i32_452
  let c9_i32 : BitVec 32 := 9#32
  let v721 : BitVec 32 := Scalar.addi v720 c9_i32
  let c5_i32_481 : BitVec 32 := 5#32
  let v782 : BitVec 32 := Scalar.muli v721 c5_i32_481
  let c4_i32_482 : BitVec 32 := 4#32
  let v783 : BitVec 32 := Scalar.addi v782 c4_i32_482
  let c0_i32_485 : BitVec 32 := 0#32
  ![v783.toNat, 0]
def k0_off381 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_487 : BitVec 32 := 16#32
  let v792 : BitVec 32 := Scalar.muli arg13 c16_i32_487
  let c10_i32 : BitVec 32 := 10#32
  let v793 : BitVec 32 := Scalar.addi v792 c10_i32
  let c0_i32_488 : BitVec 32 := 0#32
  ![v793.toNat, 0]
def k0_off382 (v795 : BitVec 32) : Fin 2 → Nat :=
  let c0_i32_489 : BitVec 32 := 0#32
  ![v795.toNat, 0]

def k0_chk157 (v795 : BitVec 32) : Prop :=
  (∀ a, (k0_off382 v795) a + S1x64.size a ≤ S1000000x64.size a)
instance k0_chk157.dec : ∀ (v795 : BitVec 32), Decidable (k0_chk157 v795) := fun v795 => decidable_of_iff' _ (Iff.of_eq (k0_chk157.eq_1 v795))
theorem k0_off382_inb : ∀ (v795 : BitVec 32) (k0_hw157 : k0_chk157 v795), ∀ a, (k0_off382 v795) a + S1x64.size a ≤ S1000000x64.size a := fun v795 k0_hw157 => k0_hw157

def k0_off383 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_487 : BitVec 32 := 16#32
  let v792 : BitVec 32 := Scalar.muli arg13 c16_i32_487
  let c10_i32 : BitVec 32 := 10#32
  let v793 : BitVec 32 := Scalar.addi v792 c10_i32
  let c0_i32_490 : BitVec 32 := 0#32
  ![v793.toNat, 0]
def k0_off384 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_487 : BitVec 32 := 16#32
  let v792 : BitVec 32 := Scalar.muli arg13 c16_i32_487
  let c10_i32 : BitVec 32 := 10#32
  let v793 : BitVec 32 := Scalar.addi v792 c10_i32
  let c5_i32_492 : BitVec 32 := 5#32
  let v806 : BitVec 32 := Scalar.muli v793 c5_i32_492
  let c0_i32_493 : BitVec 32 := 0#32
  let v807 : BitVec 32 := Scalar.addi v806 c0_i32_493
  let c0_i32_494 : BitVec 32 := 0#32
  ![v807.toNat, 0]
def k0_off385 (v805 : BitVec 32) : Fin 2 → Nat :=
  let c0_i32_495 : BitVec 32 := 0#32
  ![v805.toNat, 0]

def k0_chk158 (v805 : BitVec 32) : Prop :=
  (∀ a, (k0_off385 v805) a + S1x64.size a ≤ S1000000x64.size a)
instance k0_chk158.dec : ∀ (v805 : BitVec 32), Decidable (k0_chk158 v805) := fun v805 => decidable_of_iff' _ (Iff.of_eq (k0_chk158.eq_1 v805))
theorem k0_off385_inb : ∀ (v805 : BitVec 32) (k0_hw158 : k0_chk158 v805), ∀ a, (k0_off385 v805) a + S1x64.size a ≤ S1000000x64.size a := fun v805 k0_hw158 => k0_hw158

def k0_off386 (k0_t4 : Fin k0_t4_loop.trips) (c0_i32_493 : BitVec 32) : Fin 2 → Nat :=
  let c0_i32_13 : BitVec 32 := 0#32
  let c1_i32_15 : BitVec 32 := 1#32
  let arg13 : BitVec 32 := Scf.iv c0_i32_13 c1_i32_15 k0_t4
  let c16_i32_487 : BitVec 32 := 16#32
  let v792 : BitVec 32 := Scalar.muli arg13 c16_i32_487
  let c10_i32 : BitVec 32 := 10#32
  let v793 : BitVec 32 := Scalar.addi v792 c10_i32
  let c5_i32_492 : BitVec 32 := 5#32
  let v806 : BitVec 32 := Scalar.muli v793 c5_i32_492
  let v807 : BitVec 32 := Scalar.addi v806 c0_i32_493
  let c0_i32_496 : BitVec 32 := 0#32
  ![v807.toNat, 0]
def k0_off387 (v817 : BitVec 32) : Fin 2 → Nat :=
  let c0_i32_501 : BitVec 32 := 0#32
  ![v817.toNat, 0]

def k0_chk159 (v817 : BitVec 32) : Prop :=
  (∀ a, (k0_off387 v817) a + S1x64.size a ≤ S1000000x64.size a)
instance k0_chk159.dec : ∀ (v817 : BitVec 32), Decidable (k0_chk159 v817) := fun v817 => decidable_of_iff' _ (Iff.of_eq (k0_chk159.eq_1 v817))
theorem k0_off387_inb : ∀ (v817 : BitVec 32) (k0_hw159 : k0_chk159 v817), ∀ a, (k0_off387 v817) a + S1x64.size a ≤ S1000000x64.size a := fun v817 k0_hw159 => k0_hw159

def k0_off388 (k0_t4 : Fin k0_t4_loop.trips) (c1_i32_499 : BitVec 32) : Fin 2 → Nat :=
  let c0_i32_13 : BitVec 32 := 0#32
  let c1_i32_15 : BitVec 32 := 1#32
  let arg13 : BitVec 32 := Scf.iv c0_i32_13 c1_i32_15 k0_t4
  let c16_i32_487 : BitVec 32 := 16#32
  let v792 : BitVec 32 := Scalar.muli arg13 c16_i32_487
  let c10_i32 : BitVec 32 := 10#32
  let v793 : BitVec 32 := Scalar.addi v792 c10_i32
  let c5_i32_498 : BitVec 32 := 5#32
  let v818 : BitVec 32 := Scalar.muli v793 c5_i32_498
  let v819 : BitVec 32 := Scalar.addi v818 c1_i32_499
  let c0_i32_502 : BitVec 32 := 0#32
  ![v819.toNat, 0]
def k0_off389 (v829 : BitVec 32) : Fin 2 → Nat :=
  let c0_i32_507 : BitVec 32 := 0#32
  ![v829.toNat, 0]

def k0_chk160 (v829 : BitVec 32) : Prop :=
  (∀ a, (k0_off389 v829) a + S1x64.size a ≤ S1000000x64.size a)
instance k0_chk160.dec : ∀ (v829 : BitVec 32), Decidable (k0_chk160 v829) := fun v829 => decidable_of_iff' _ (Iff.of_eq (k0_chk160.eq_1 v829))
theorem k0_off389_inb : ∀ (v829 : BitVec 32) (k0_hw160 : k0_chk160 v829), ∀ a, (k0_off389 v829) a + S1x64.size a ≤ S1000000x64.size a := fun v829 k0_hw160 => k0_hw160

def k0_off390 (k0_t4 : Fin k0_t4_loop.trips) (c2_i32_505 : BitVec 32) : Fin 2 → Nat :=
  let c0_i32_13 : BitVec 32 := 0#32
  let c1_i32_15 : BitVec 32 := 1#32
  let arg13 : BitVec 32 := Scf.iv c0_i32_13 c1_i32_15 k0_t4
  let c16_i32_487 : BitVec 32 := 16#32
  let v792 : BitVec 32 := Scalar.muli arg13 c16_i32_487
  let c10_i32 : BitVec 32 := 10#32
  let v793 : BitVec 32 := Scalar.addi v792 c10_i32
  let c5_i32_504 : BitVec 32 := 5#32
  let v830 : BitVec 32 := Scalar.muli v793 c5_i32_504
  let v831 : BitVec 32 := Scalar.addi v830 c2_i32_505
  let c0_i32_508 : BitVec 32 := 0#32
  ![v831.toNat, 0]
def k0_off391 (v841 : BitVec 32) : Fin 2 → Nat :=
  let c0_i32_513 : BitVec 32 := 0#32
  ![v841.toNat, 0]

def k0_chk161 (v841 : BitVec 32) : Prop :=
  (∀ a, (k0_off391 v841) a + S1x64.size a ≤ S1000000x64.size a)
instance k0_chk161.dec : ∀ (v841 : BitVec 32), Decidable (k0_chk161 v841) := fun v841 => decidable_of_iff' _ (Iff.of_eq (k0_chk161.eq_1 v841))
theorem k0_off391_inb : ∀ (v841 : BitVec 32) (k0_hw161 : k0_chk161 v841), ∀ a, (k0_off391 v841) a + S1x64.size a ≤ S1000000x64.size a := fun v841 k0_hw161 => k0_hw161

def k0_off392 (k0_t4 : Fin k0_t4_loop.trips) (c3_i32_511 : BitVec 32) : Fin 2 → Nat :=
  let c0_i32_13 : BitVec 32 := 0#32
  let c1_i32_15 : BitVec 32 := 1#32
  let arg13 : BitVec 32 := Scf.iv c0_i32_13 c1_i32_15 k0_t4
  let c16_i32_487 : BitVec 32 := 16#32
  let v792 : BitVec 32 := Scalar.muli arg13 c16_i32_487
  let c10_i32 : BitVec 32 := 10#32
  let v793 : BitVec 32 := Scalar.addi v792 c10_i32
  let c5_i32_510 : BitVec 32 := 5#32
  let v842 : BitVec 32 := Scalar.muli v793 c5_i32_510
  let v843 : BitVec 32 := Scalar.addi v842 c3_i32_511
  let c0_i32_514 : BitVec 32 := 0#32
  ![v843.toNat, 0]
def k0_off393 (v853 : BitVec 32) : Fin 2 → Nat :=
  let c0_i32_519 : BitVec 32 := 0#32
  ![v853.toNat, 0]

def k0_chk162 (v853 : BitVec 32) : Prop :=
  (∀ a, (k0_off393 v853) a + S1x64.size a ≤ S1000000x64.size a)
instance k0_chk162.dec : ∀ (v853 : BitVec 32), Decidable (k0_chk162 v853) := fun v853 => decidable_of_iff' _ (Iff.of_eq (k0_chk162.eq_1 v853))
theorem k0_off393_inb : ∀ (v853 : BitVec 32) (k0_hw162 : k0_chk162 v853), ∀ a, (k0_off393 v853) a + S1x64.size a ≤ S1000000x64.size a := fun v853 k0_hw162 => k0_hw162

def k0_off394 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_487 : BitVec 32 := 16#32
  let v792 : BitVec 32 := Scalar.muli arg13 c16_i32_487
  let c10_i32 : BitVec 32 := 10#32
  let v793 : BitVec 32 := Scalar.addi v792 c10_i32
  let c5_i32_516 : BitVec 32 := 5#32
  let v854 : BitVec 32 := Scalar.muli v793 c5_i32_516
  let c4_i32_517 : BitVec 32 := 4#32
  let v855 : BitVec 32 := Scalar.addi v854 c4_i32_517
  let c0_i32_520 : BitVec 32 := 0#32
  ![v855.toNat, 0]
def k0_off395 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_522 : BitVec 32 := 16#32
  let v864 : BitVec 32 := Scalar.muli arg13 c16_i32_522
  let c11_i32 : BitVec 32 := 11#32
  let v865 : BitVec 32 := Scalar.addi v864 c11_i32
  let c0_i32_523 : BitVec 32 := 0#32
  ![v865.toNat, 0]
def k0_off396 (v867 : BitVec 32) : Fin 2 → Nat :=
  let c0_i32_524 : BitVec 32 := 0#32
  ![v867.toNat, 0]

def k0_chk163 (v867 : BitVec 32) : Prop :=
  (∀ a, (k0_off396 v867) a + S1x64.size a ≤ S1000000x64.size a)
instance k0_chk163.dec : ∀ (v867 : BitVec 32), Decidable (k0_chk163 v867) := fun v867 => decidable_of_iff' _ (Iff.of_eq (k0_chk163.eq_1 v867))
theorem k0_off396_inb : ∀ (v867 : BitVec 32) (k0_hw163 : k0_chk163 v867), ∀ a, (k0_off396 v867) a + S1x64.size a ≤ S1000000x64.size a := fun v867 k0_hw163 => k0_hw163

def k0_off397 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_522 : BitVec 32 := 16#32
  let v864 : BitVec 32 := Scalar.muli arg13 c16_i32_522
  let c11_i32 : BitVec 32 := 11#32
  let v865 : BitVec 32 := Scalar.addi v864 c11_i32
  let c0_i32_525 : BitVec 32 := 0#32
  ![v865.toNat, 0]
def k0_off398 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_522 : BitVec 32 := 16#32
  let v864 : BitVec 32 := Scalar.muli arg13 c16_i32_522
  let c11_i32 : BitVec 32 := 11#32
  let v865 : BitVec 32 := Scalar.addi v864 c11_i32
  let c5_i32_527 : BitVec 32 := 5#32
  let v878 : BitVec 32 := Scalar.muli v865 c5_i32_527
  let c0_i32_528 : BitVec 32 := 0#32
  let v879 : BitVec 32 := Scalar.addi v878 c0_i32_528
  let c0_i32_529 : BitVec 32 := 0#32
  ![v879.toNat, 0]
def k0_off399 (v877 : BitVec 32) : Fin 2 → Nat :=
  let c0_i32_530 : BitVec 32 := 0#32
  ![v877.toNat, 0]

def k0_chk164 (v877 : BitVec 32) : Prop :=
  (∀ a, (k0_off399 v877) a + S1x64.size a ≤ S1000000x64.size a)
instance k0_chk164.dec : ∀ (v877 : BitVec 32), Decidable (k0_chk164 v877) := fun v877 => decidable_of_iff' _ (Iff.of_eq (k0_chk164.eq_1 v877))
theorem k0_off399_inb : ∀ (v877 : BitVec 32) (k0_hw164 : k0_chk164 v877), ∀ a, (k0_off399 v877) a + S1x64.size a ≤ S1000000x64.size a := fun v877 k0_hw164 => k0_hw164

def k0_off400 (k0_t4 : Fin k0_t4_loop.trips) (c0_i32_528 : BitVec 32) : Fin 2 → Nat :=
  let c0_i32_13 : BitVec 32 := 0#32
  let c1_i32_15 : BitVec 32 := 1#32
  let arg13 : BitVec 32 := Scf.iv c0_i32_13 c1_i32_15 k0_t4
  let c16_i32_522 : BitVec 32 := 16#32
  let v864 : BitVec 32 := Scalar.muli arg13 c16_i32_522
  let c11_i32 : BitVec 32 := 11#32
  let v865 : BitVec 32 := Scalar.addi v864 c11_i32
  let c5_i32_527 : BitVec 32 := 5#32
  let v878 : BitVec 32 := Scalar.muli v865 c5_i32_527
  let v879 : BitVec 32 := Scalar.addi v878 c0_i32_528
  let c0_i32_531 : BitVec 32 := 0#32
  ![v879.toNat, 0]
def k0_off401 (v889 : BitVec 32) : Fin 2 → Nat :=
  let c0_i32_536 : BitVec 32 := 0#32
  ![v889.toNat, 0]

def k0_chk165 (v889 : BitVec 32) : Prop :=
  (∀ a, (k0_off401 v889) a + S1x64.size a ≤ S1000000x64.size a)
instance k0_chk165.dec : ∀ (v889 : BitVec 32), Decidable (k0_chk165 v889) := fun v889 => decidable_of_iff' _ (Iff.of_eq (k0_chk165.eq_1 v889))
theorem k0_off401_inb : ∀ (v889 : BitVec 32) (k0_hw165 : k0_chk165 v889), ∀ a, (k0_off401 v889) a + S1x64.size a ≤ S1000000x64.size a := fun v889 k0_hw165 => k0_hw165

def k0_off402 (k0_t4 : Fin k0_t4_loop.trips) (c1_i32_534 : BitVec 32) : Fin 2 → Nat :=
  let c0_i32_13 : BitVec 32 := 0#32
  let c1_i32_15 : BitVec 32 := 1#32
  let arg13 : BitVec 32 := Scf.iv c0_i32_13 c1_i32_15 k0_t4
  let c16_i32_522 : BitVec 32 := 16#32
  let v864 : BitVec 32 := Scalar.muli arg13 c16_i32_522
  let c11_i32 : BitVec 32 := 11#32
  let v865 : BitVec 32 := Scalar.addi v864 c11_i32
  let c5_i32_533 : BitVec 32 := 5#32
  let v890 : BitVec 32 := Scalar.muli v865 c5_i32_533
  let v891 : BitVec 32 := Scalar.addi v890 c1_i32_534
  let c0_i32_537 : BitVec 32 := 0#32
  ![v891.toNat, 0]
def k0_off403 (v901 : BitVec 32) : Fin 2 → Nat :=
  let c0_i32_542 : BitVec 32 := 0#32
  ![v901.toNat, 0]

def k0_chk166 (v901 : BitVec 32) : Prop :=
  (∀ a, (k0_off403 v901) a + S1x64.size a ≤ S1000000x64.size a)
instance k0_chk166.dec : ∀ (v901 : BitVec 32), Decidable (k0_chk166 v901) := fun v901 => decidable_of_iff' _ (Iff.of_eq (k0_chk166.eq_1 v901))
theorem k0_off403_inb : ∀ (v901 : BitVec 32) (k0_hw166 : k0_chk166 v901), ∀ a, (k0_off403 v901) a + S1x64.size a ≤ S1000000x64.size a := fun v901 k0_hw166 => k0_hw166

def k0_off404 (k0_t4 : Fin k0_t4_loop.trips) (c2_i32_540 : BitVec 32) : Fin 2 → Nat :=
  let c0_i32_13 : BitVec 32 := 0#32
  let c1_i32_15 : BitVec 32 := 1#32
  let arg13 : BitVec 32 := Scf.iv c0_i32_13 c1_i32_15 k0_t4
  let c16_i32_522 : BitVec 32 := 16#32
  let v864 : BitVec 32 := Scalar.muli arg13 c16_i32_522
  let c11_i32 : BitVec 32 := 11#32
  let v865 : BitVec 32 := Scalar.addi v864 c11_i32
  let c5_i32_539 : BitVec 32 := 5#32
  let v902 : BitVec 32 := Scalar.muli v865 c5_i32_539
  let v903 : BitVec 32 := Scalar.addi v902 c2_i32_540
  let c0_i32_543 : BitVec 32 := 0#32
  ![v903.toNat, 0]
def k0_off405 (v913 : BitVec 32) : Fin 2 → Nat :=
  let c0_i32_548 : BitVec 32 := 0#32
  ![v913.toNat, 0]

def k0_chk167 (v913 : BitVec 32) : Prop :=
  (∀ a, (k0_off405 v913) a + S1x64.size a ≤ S1000000x64.size a)
instance k0_chk167.dec : ∀ (v913 : BitVec 32), Decidable (k0_chk167 v913) := fun v913 => decidable_of_iff' _ (Iff.of_eq (k0_chk167.eq_1 v913))
theorem k0_off405_inb : ∀ (v913 : BitVec 32) (k0_hw167 : k0_chk167 v913), ∀ a, (k0_off405 v913) a + S1x64.size a ≤ S1000000x64.size a := fun v913 k0_hw167 => k0_hw167

def k0_off406 (k0_t4 : Fin k0_t4_loop.trips) (c3_i32_546 : BitVec 32) : Fin 2 → Nat :=
  let c0_i32_13 : BitVec 32 := 0#32
  let c1_i32_15 : BitVec 32 := 1#32
  let arg13 : BitVec 32 := Scf.iv c0_i32_13 c1_i32_15 k0_t4
  let c16_i32_522 : BitVec 32 := 16#32
  let v864 : BitVec 32 := Scalar.muli arg13 c16_i32_522
  let c11_i32 : BitVec 32 := 11#32
  let v865 : BitVec 32 := Scalar.addi v864 c11_i32
  let c5_i32_545 : BitVec 32 := 5#32
  let v914 : BitVec 32 := Scalar.muli v865 c5_i32_545
  let v915 : BitVec 32 := Scalar.addi v914 c3_i32_546
  let c0_i32_549 : BitVec 32 := 0#32
  ![v915.toNat, 0]
def k0_off407 (v925 : BitVec 32) : Fin 2 → Nat :=
  let c0_i32_554 : BitVec 32 := 0#32
  ![v925.toNat, 0]

def k0_chk168 (v925 : BitVec 32) : Prop :=
  (∀ a, (k0_off407 v925) a + S1x64.size a ≤ S1000000x64.size a)
instance k0_chk168.dec : ∀ (v925 : BitVec 32), Decidable (k0_chk168 v925) := fun v925 => decidable_of_iff' _ (Iff.of_eq (k0_chk168.eq_1 v925))
theorem k0_off407_inb : ∀ (v925 : BitVec 32) (k0_hw168 : k0_chk168 v925), ∀ a, (k0_off407 v925) a + S1x64.size a ≤ S1000000x64.size a := fun v925 k0_hw168 => k0_hw168

def k0_off408 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_522 : BitVec 32 := 16#32
  let v864 : BitVec 32 := Scalar.muli arg13 c16_i32_522
  let c11_i32 : BitVec 32 := 11#32
  let v865 : BitVec 32 := Scalar.addi v864 c11_i32
  let c5_i32_551 : BitVec 32 := 5#32
  let v926 : BitVec 32 := Scalar.muli v865 c5_i32_551
  let c4_i32_552 : BitVec 32 := 4#32
  let v927 : BitVec 32 := Scalar.addi v926 c4_i32_552
  let c0_i32_555 : BitVec 32 := 0#32
  ![v927.toNat, 0]
def k0_off409 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_557 : BitVec 32 := 16#32
  let v936 : BitVec 32 := Scalar.muli arg13 c16_i32_557
  let c12_i32 : BitVec 32 := 12#32
  let v937 : BitVec 32 := Scalar.addi v936 c12_i32
  let c0_i32_558 : BitVec 32 := 0#32
  ![v937.toNat, 0]
def k0_off410 (v939 : BitVec 32) : Fin 2 → Nat :=
  let c0_i32_559 : BitVec 32 := 0#32
  ![v939.toNat, 0]

def k0_chk169 (v939 : BitVec 32) : Prop :=
  (∀ a, (k0_off410 v939) a + S1x64.size a ≤ S1000000x64.size a)
instance k0_chk169.dec : ∀ (v939 : BitVec 32), Decidable (k0_chk169 v939) := fun v939 => decidable_of_iff' _ (Iff.of_eq (k0_chk169.eq_1 v939))
theorem k0_off410_inb : ∀ (v939 : BitVec 32) (k0_hw169 : k0_chk169 v939), ∀ a, (k0_off410 v939) a + S1x64.size a ≤ S1000000x64.size a := fun v939 k0_hw169 => k0_hw169

def k0_off411 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_557 : BitVec 32 := 16#32
  let v936 : BitVec 32 := Scalar.muli arg13 c16_i32_557
  let c12_i32 : BitVec 32 := 12#32
  let v937 : BitVec 32 := Scalar.addi v936 c12_i32
  let c0_i32_560 : BitVec 32 := 0#32
  ![v937.toNat, 0]
def k0_off412 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_557 : BitVec 32 := 16#32
  let v936 : BitVec 32 := Scalar.muli arg13 c16_i32_557
  let c12_i32 : BitVec 32 := 12#32
  let v937 : BitVec 32 := Scalar.addi v936 c12_i32
  let c5_i32_562 : BitVec 32 := 5#32
  let v950 : BitVec 32 := Scalar.muli v937 c5_i32_562
  let c0_i32_563 : BitVec 32 := 0#32
  let v951 : BitVec 32 := Scalar.addi v950 c0_i32_563
  let c0_i32_564 : BitVec 32 := 0#32
  ![v951.toNat, 0]
def k0_off413 (v949 : BitVec 32) : Fin 2 → Nat :=
  let c0_i32_565 : BitVec 32 := 0#32
  ![v949.toNat, 0]

def k0_chk170 (v949 : BitVec 32) : Prop :=
  (∀ a, (k0_off413 v949) a + S1x64.size a ≤ S1000000x64.size a)
instance k0_chk170.dec : ∀ (v949 : BitVec 32), Decidable (k0_chk170 v949) := fun v949 => decidable_of_iff' _ (Iff.of_eq (k0_chk170.eq_1 v949))
theorem k0_off413_inb : ∀ (v949 : BitVec 32) (k0_hw170 : k0_chk170 v949), ∀ a, (k0_off413 v949) a + S1x64.size a ≤ S1000000x64.size a := fun v949 k0_hw170 => k0_hw170

def k0_off414 (k0_t4 : Fin k0_t4_loop.trips) (c0_i32_563 : BitVec 32) : Fin 2 → Nat :=
  let c0_i32_13 : BitVec 32 := 0#32
  let c1_i32_15 : BitVec 32 := 1#32
  let arg13 : BitVec 32 := Scf.iv c0_i32_13 c1_i32_15 k0_t4
  let c16_i32_557 : BitVec 32 := 16#32
  let v936 : BitVec 32 := Scalar.muli arg13 c16_i32_557
  let c12_i32 : BitVec 32 := 12#32
  let v937 : BitVec 32 := Scalar.addi v936 c12_i32
  let c5_i32_562 : BitVec 32 := 5#32
  let v950 : BitVec 32 := Scalar.muli v937 c5_i32_562
  let v951 : BitVec 32 := Scalar.addi v950 c0_i32_563
  let c0_i32_566 : BitVec 32 := 0#32
  ![v951.toNat, 0]
def k0_off415 (v961 : BitVec 32) : Fin 2 → Nat :=
  let c0_i32_571 : BitVec 32 := 0#32
  ![v961.toNat, 0]

def k0_chk171 (v961 : BitVec 32) : Prop :=
  (∀ a, (k0_off415 v961) a + S1x64.size a ≤ S1000000x64.size a)
instance k0_chk171.dec : ∀ (v961 : BitVec 32), Decidable (k0_chk171 v961) := fun v961 => decidable_of_iff' _ (Iff.of_eq (k0_chk171.eq_1 v961))
theorem k0_off415_inb : ∀ (v961 : BitVec 32) (k0_hw171 : k0_chk171 v961), ∀ a, (k0_off415 v961) a + S1x64.size a ≤ S1000000x64.size a := fun v961 k0_hw171 => k0_hw171

def k0_off416 (k0_t4 : Fin k0_t4_loop.trips) (c1_i32_569 : BitVec 32) : Fin 2 → Nat :=
  let c0_i32_13 : BitVec 32 := 0#32
  let c1_i32_15 : BitVec 32 := 1#32
  let arg13 : BitVec 32 := Scf.iv c0_i32_13 c1_i32_15 k0_t4
  let c16_i32_557 : BitVec 32 := 16#32
  let v936 : BitVec 32 := Scalar.muli arg13 c16_i32_557
  let c12_i32 : BitVec 32 := 12#32
  let v937 : BitVec 32 := Scalar.addi v936 c12_i32
  let c5_i32_568 : BitVec 32 := 5#32
  let v962 : BitVec 32 := Scalar.muli v937 c5_i32_568
  let v963 : BitVec 32 := Scalar.addi v962 c1_i32_569
  let c0_i32_572 : BitVec 32 := 0#32
  ![v963.toNat, 0]
def k0_off417 (v973 : BitVec 32) : Fin 2 → Nat :=
  let c0_i32_577 : BitVec 32 := 0#32
  ![v973.toNat, 0]

def k0_chk172 (v973 : BitVec 32) : Prop :=
  (∀ a, (k0_off417 v973) a + S1x64.size a ≤ S1000000x64.size a)
instance k0_chk172.dec : ∀ (v973 : BitVec 32), Decidable (k0_chk172 v973) := fun v973 => decidable_of_iff' _ (Iff.of_eq (k0_chk172.eq_1 v973))
theorem k0_off417_inb : ∀ (v973 : BitVec 32) (k0_hw172 : k0_chk172 v973), ∀ a, (k0_off417 v973) a + S1x64.size a ≤ S1000000x64.size a := fun v973 k0_hw172 => k0_hw172

def k0_off418 (k0_t4 : Fin k0_t4_loop.trips) (c2_i32_575 : BitVec 32) : Fin 2 → Nat :=
  let c0_i32_13 : BitVec 32 := 0#32
  let c1_i32_15 : BitVec 32 := 1#32
  let arg13 : BitVec 32 := Scf.iv c0_i32_13 c1_i32_15 k0_t4
  let c16_i32_557 : BitVec 32 := 16#32
  let v936 : BitVec 32 := Scalar.muli arg13 c16_i32_557
  let c12_i32 : BitVec 32 := 12#32
  let v937 : BitVec 32 := Scalar.addi v936 c12_i32
  let c5_i32_574 : BitVec 32 := 5#32
  let v974 : BitVec 32 := Scalar.muli v937 c5_i32_574
  let v975 : BitVec 32 := Scalar.addi v974 c2_i32_575
  let c0_i32_578 : BitVec 32 := 0#32
  ![v975.toNat, 0]
def k0_off419 (v985 : BitVec 32) : Fin 2 → Nat :=
  let c0_i32_583 : BitVec 32 := 0#32
  ![v985.toNat, 0]

def k0_chk173 (v985 : BitVec 32) : Prop :=
  (∀ a, (k0_off419 v985) a + S1x64.size a ≤ S1000000x64.size a)
instance k0_chk173.dec : ∀ (v985 : BitVec 32), Decidable (k0_chk173 v985) := fun v985 => decidable_of_iff' _ (Iff.of_eq (k0_chk173.eq_1 v985))
theorem k0_off419_inb : ∀ (v985 : BitVec 32) (k0_hw173 : k0_chk173 v985), ∀ a, (k0_off419 v985) a + S1x64.size a ≤ S1000000x64.size a := fun v985 k0_hw173 => k0_hw173

def k0_off420 (k0_t4 : Fin k0_t4_loop.trips) (c3_i32_581 : BitVec 32) : Fin 2 → Nat :=
  let c0_i32_13 : BitVec 32 := 0#32
  let c1_i32_15 : BitVec 32 := 1#32
  let arg13 : BitVec 32 := Scf.iv c0_i32_13 c1_i32_15 k0_t4
  let c16_i32_557 : BitVec 32 := 16#32
  let v936 : BitVec 32 := Scalar.muli arg13 c16_i32_557
  let c12_i32 : BitVec 32 := 12#32
  let v937 : BitVec 32 := Scalar.addi v936 c12_i32
  let c5_i32_580 : BitVec 32 := 5#32
  let v986 : BitVec 32 := Scalar.muli v937 c5_i32_580
  let v987 : BitVec 32 := Scalar.addi v986 c3_i32_581
  let c0_i32_584 : BitVec 32 := 0#32
  ![v987.toNat, 0]
def k0_off421 (v997 : BitVec 32) : Fin 2 → Nat :=
  let c0_i32_589 : BitVec 32 := 0#32
  ![v997.toNat, 0]

def k0_chk174 (v997 : BitVec 32) : Prop :=
  (∀ a, (k0_off421 v997) a + S1x64.size a ≤ S1000000x64.size a)
instance k0_chk174.dec : ∀ (v997 : BitVec 32), Decidable (k0_chk174 v997) := fun v997 => decidable_of_iff' _ (Iff.of_eq (k0_chk174.eq_1 v997))
theorem k0_off421_inb : ∀ (v997 : BitVec 32) (k0_hw174 : k0_chk174 v997), ∀ a, (k0_off421 v997) a + S1x64.size a ≤ S1000000x64.size a := fun v997 k0_hw174 => k0_hw174

def k0_off422 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_557 : BitVec 32 := 16#32
  let v936 : BitVec 32 := Scalar.muli arg13 c16_i32_557
  let c12_i32 : BitVec 32 := 12#32
  let v937 : BitVec 32 := Scalar.addi v936 c12_i32
  let c5_i32_586 : BitVec 32 := 5#32
  let v998 : BitVec 32 := Scalar.muli v937 c5_i32_586
  let c4_i32_587 : BitVec 32 := 4#32
  let v999 : BitVec 32 := Scalar.addi v998 c4_i32_587
  let c0_i32_590 : BitVec 32 := 0#32
  ![v999.toNat, 0]
def k0_off423 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_592 : BitVec 32 := 16#32
  let v1008 : BitVec 32 := Scalar.muli arg13 c16_i32_592
  let c13_i32 : BitVec 32 := 13#32
  let v1009 : BitVec 32 := Scalar.addi v1008 c13_i32
  let c0_i32_593 : BitVec 32 := 0#32
  ![v1009.toNat, 0]
def k0_off424 (v1011 : BitVec 32) : Fin 2 → Nat :=
  let c0_i32_594 : BitVec 32 := 0#32
  ![v1011.toNat, 0]

def k0_chk175 (v1011 : BitVec 32) : Prop :=
  (∀ a, (k0_off424 v1011) a + S1x64.size a ≤ S1000000x64.size a)
instance k0_chk175.dec : ∀ (v1011 : BitVec 32), Decidable (k0_chk175 v1011) := fun v1011 => decidable_of_iff' _ (Iff.of_eq (k0_chk175.eq_1 v1011))
theorem k0_off424_inb : ∀ (v1011 : BitVec 32) (k0_hw175 : k0_chk175 v1011), ∀ a, (k0_off424 v1011) a + S1x64.size a ≤ S1000000x64.size a := fun v1011 k0_hw175 => k0_hw175

def k0_off425 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_592 : BitVec 32 := 16#32
  let v1008 : BitVec 32 := Scalar.muli arg13 c16_i32_592
  let c13_i32 : BitVec 32 := 13#32
  let v1009 : BitVec 32 := Scalar.addi v1008 c13_i32
  let c0_i32_595 : BitVec 32 := 0#32
  ![v1009.toNat, 0]
def k0_off426 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_592 : BitVec 32 := 16#32
  let v1008 : BitVec 32 := Scalar.muli arg13 c16_i32_592
  let c13_i32 : BitVec 32 := 13#32
  let v1009 : BitVec 32 := Scalar.addi v1008 c13_i32
  let c5_i32_597 : BitVec 32 := 5#32
  let v1022 : BitVec 32 := Scalar.muli v1009 c5_i32_597
  let c0_i32_598 : BitVec 32 := 0#32
  let v1023 : BitVec 32 := Scalar.addi v1022 c0_i32_598
  let c0_i32_599 : BitVec 32 := 0#32
  ![v1023.toNat, 0]
def k0_off427 (v1021 : BitVec 32) : Fin 2 → Nat :=
  let c0_i32_600 : BitVec 32 := 0#32
  ![v1021.toNat, 0]

def k0_chk176 (v1021 : BitVec 32) : Prop :=
  (∀ a, (k0_off427 v1021) a + S1x64.size a ≤ S1000000x64.size a)
instance k0_chk176.dec : ∀ (v1021 : BitVec 32), Decidable (k0_chk176 v1021) := fun v1021 => decidable_of_iff' _ (Iff.of_eq (k0_chk176.eq_1 v1021))
theorem k0_off427_inb : ∀ (v1021 : BitVec 32) (k0_hw176 : k0_chk176 v1021), ∀ a, (k0_off427 v1021) a + S1x64.size a ≤ S1000000x64.size a := fun v1021 k0_hw176 => k0_hw176

def k0_off428 (k0_t4 : Fin k0_t4_loop.trips) (c0_i32_598 : BitVec 32) : Fin 2 → Nat :=
  let c0_i32_13 : BitVec 32 := 0#32
  let c1_i32_15 : BitVec 32 := 1#32
  let arg13 : BitVec 32 := Scf.iv c0_i32_13 c1_i32_15 k0_t4
  let c16_i32_592 : BitVec 32 := 16#32
  let v1008 : BitVec 32 := Scalar.muli arg13 c16_i32_592
  let c13_i32 : BitVec 32 := 13#32
  let v1009 : BitVec 32 := Scalar.addi v1008 c13_i32
  let c5_i32_597 : BitVec 32 := 5#32
  let v1022 : BitVec 32 := Scalar.muli v1009 c5_i32_597
  let v1023 : BitVec 32 := Scalar.addi v1022 c0_i32_598
  let c0_i32_601 : BitVec 32 := 0#32
  ![v1023.toNat, 0]
def k0_off429 (v1033 : BitVec 32) : Fin 2 → Nat :=
  let c0_i32_606 : BitVec 32 := 0#32
  ![v1033.toNat, 0]

def k0_chk177 (v1033 : BitVec 32) : Prop :=
  (∀ a, (k0_off429 v1033) a + S1x64.size a ≤ S1000000x64.size a)
instance k0_chk177.dec : ∀ (v1033 : BitVec 32), Decidable (k0_chk177 v1033) := fun v1033 => decidable_of_iff' _ (Iff.of_eq (k0_chk177.eq_1 v1033))
theorem k0_off429_inb : ∀ (v1033 : BitVec 32) (k0_hw177 : k0_chk177 v1033), ∀ a, (k0_off429 v1033) a + S1x64.size a ≤ S1000000x64.size a := fun v1033 k0_hw177 => k0_hw177

def k0_off430 (k0_t4 : Fin k0_t4_loop.trips) (c1_i32_604 : BitVec 32) : Fin 2 → Nat :=
  let c0_i32_13 : BitVec 32 := 0#32
  let c1_i32_15 : BitVec 32 := 1#32
  let arg13 : BitVec 32 := Scf.iv c0_i32_13 c1_i32_15 k0_t4
  let c16_i32_592 : BitVec 32 := 16#32
  let v1008 : BitVec 32 := Scalar.muli arg13 c16_i32_592
  let c13_i32 : BitVec 32 := 13#32
  let v1009 : BitVec 32 := Scalar.addi v1008 c13_i32
  let c5_i32_603 : BitVec 32 := 5#32
  let v1034 : BitVec 32 := Scalar.muli v1009 c5_i32_603
  let v1035 : BitVec 32 := Scalar.addi v1034 c1_i32_604
  let c0_i32_607 : BitVec 32 := 0#32
  ![v1035.toNat, 0]
def k0_off431 (v1045 : BitVec 32) : Fin 2 → Nat :=
  let c0_i32_612 : BitVec 32 := 0#32
  ![v1045.toNat, 0]

def k0_chk178 (v1045 : BitVec 32) : Prop :=
  (∀ a, (k0_off431 v1045) a + S1x64.size a ≤ S1000000x64.size a)
instance k0_chk178.dec : ∀ (v1045 : BitVec 32), Decidable (k0_chk178 v1045) := fun v1045 => decidable_of_iff' _ (Iff.of_eq (k0_chk178.eq_1 v1045))
theorem k0_off431_inb : ∀ (v1045 : BitVec 32) (k0_hw178 : k0_chk178 v1045), ∀ a, (k0_off431 v1045) a + S1x64.size a ≤ S1000000x64.size a := fun v1045 k0_hw178 => k0_hw178

def k0_off432 (k0_t4 : Fin k0_t4_loop.trips) (c2_i32_610 : BitVec 32) : Fin 2 → Nat :=
  let c0_i32_13 : BitVec 32 := 0#32
  let c1_i32_15 : BitVec 32 := 1#32
  let arg13 : BitVec 32 := Scf.iv c0_i32_13 c1_i32_15 k0_t4
  let c16_i32_592 : BitVec 32 := 16#32
  let v1008 : BitVec 32 := Scalar.muli arg13 c16_i32_592
  let c13_i32 : BitVec 32 := 13#32
  let v1009 : BitVec 32 := Scalar.addi v1008 c13_i32
  let c5_i32_609 : BitVec 32 := 5#32
  let v1046 : BitVec 32 := Scalar.muli v1009 c5_i32_609
  let v1047 : BitVec 32 := Scalar.addi v1046 c2_i32_610
  let c0_i32_613 : BitVec 32 := 0#32
  ![v1047.toNat, 0]
def k0_off433 (v1057 : BitVec 32) : Fin 2 → Nat :=
  let c0_i32_618 : BitVec 32 := 0#32
  ![v1057.toNat, 0]

def k0_chk179 (v1057 : BitVec 32) : Prop :=
  (∀ a, (k0_off433 v1057) a + S1x64.size a ≤ S1000000x64.size a)
instance k0_chk179.dec : ∀ (v1057 : BitVec 32), Decidable (k0_chk179 v1057) := fun v1057 => decidable_of_iff' _ (Iff.of_eq (k0_chk179.eq_1 v1057))
theorem k0_off433_inb : ∀ (v1057 : BitVec 32) (k0_hw179 : k0_chk179 v1057), ∀ a, (k0_off433 v1057) a + S1x64.size a ≤ S1000000x64.size a := fun v1057 k0_hw179 => k0_hw179

def k0_off434 (k0_t4 : Fin k0_t4_loop.trips) (c3_i32_616 : BitVec 32) : Fin 2 → Nat :=
  let c0_i32_13 : BitVec 32 := 0#32
  let c1_i32_15 : BitVec 32 := 1#32
  let arg13 : BitVec 32 := Scf.iv c0_i32_13 c1_i32_15 k0_t4
  let c16_i32_592 : BitVec 32 := 16#32
  let v1008 : BitVec 32 := Scalar.muli arg13 c16_i32_592
  let c13_i32 : BitVec 32 := 13#32
  let v1009 : BitVec 32 := Scalar.addi v1008 c13_i32
  let c5_i32_615 : BitVec 32 := 5#32
  let v1058 : BitVec 32 := Scalar.muli v1009 c5_i32_615
  let v1059 : BitVec 32 := Scalar.addi v1058 c3_i32_616
  let c0_i32_619 : BitVec 32 := 0#32
  ![v1059.toNat, 0]
def k0_off435 (v1069 : BitVec 32) : Fin 2 → Nat :=
  let c0_i32_624 : BitVec 32 := 0#32
  ![v1069.toNat, 0]

def k0_chk180 (v1069 : BitVec 32) : Prop :=
  (∀ a, (k0_off435 v1069) a + S1x64.size a ≤ S1000000x64.size a)
instance k0_chk180.dec : ∀ (v1069 : BitVec 32), Decidable (k0_chk180 v1069) := fun v1069 => decidable_of_iff' _ (Iff.of_eq (k0_chk180.eq_1 v1069))
theorem k0_off435_inb : ∀ (v1069 : BitVec 32) (k0_hw180 : k0_chk180 v1069), ∀ a, (k0_off435 v1069) a + S1x64.size a ≤ S1000000x64.size a := fun v1069 k0_hw180 => k0_hw180

def k0_off436 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_592 : BitVec 32 := 16#32
  let v1008 : BitVec 32 := Scalar.muli arg13 c16_i32_592
  let c13_i32 : BitVec 32 := 13#32
  let v1009 : BitVec 32 := Scalar.addi v1008 c13_i32
  let c5_i32_621 : BitVec 32 := 5#32
  let v1070 : BitVec 32 := Scalar.muli v1009 c5_i32_621
  let c4_i32_622 : BitVec 32 := 4#32
  let v1071 : BitVec 32 := Scalar.addi v1070 c4_i32_622
  let c0_i32_625 : BitVec 32 := 0#32
  ![v1071.toNat, 0]
def k0_off437 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_627 : BitVec 32 := 16#32
  let v1080 : BitVec 32 := Scalar.muli arg13 c16_i32_627
  let c14_i32 : BitVec 32 := 14#32
  let v1081 : BitVec 32 := Scalar.addi v1080 c14_i32
  let c0_i32_628 : BitVec 32 := 0#32
  ![v1081.toNat, 0]
def k0_off438 (v1083 : BitVec 32) : Fin 2 → Nat :=
  let c0_i32_629 : BitVec 32 := 0#32
  ![v1083.toNat, 0]

def k0_chk181 (v1083 : BitVec 32) : Prop :=
  (∀ a, (k0_off438 v1083) a + S1x64.size a ≤ S1000000x64.size a)
instance k0_chk181.dec : ∀ (v1083 : BitVec 32), Decidable (k0_chk181 v1083) := fun v1083 => decidable_of_iff' _ (Iff.of_eq (k0_chk181.eq_1 v1083))
theorem k0_off438_inb : ∀ (v1083 : BitVec 32) (k0_hw181 : k0_chk181 v1083), ∀ a, (k0_off438 v1083) a + S1x64.size a ≤ S1000000x64.size a := fun v1083 k0_hw181 => k0_hw181

def k0_off439 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_627 : BitVec 32 := 16#32
  let v1080 : BitVec 32 := Scalar.muli arg13 c16_i32_627
  let c14_i32 : BitVec 32 := 14#32
  let v1081 : BitVec 32 := Scalar.addi v1080 c14_i32
  let c0_i32_630 : BitVec 32 := 0#32
  ![v1081.toNat, 0]
def k0_off440 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_627 : BitVec 32 := 16#32
  let v1080 : BitVec 32 := Scalar.muli arg13 c16_i32_627
  let c14_i32 : BitVec 32 := 14#32
  let v1081 : BitVec 32 := Scalar.addi v1080 c14_i32
  let c5_i32_632 : BitVec 32 := 5#32
  let v1094 : BitVec 32 := Scalar.muli v1081 c5_i32_632
  let c0_i32_633 : BitVec 32 := 0#32
  let v1095 : BitVec 32 := Scalar.addi v1094 c0_i32_633
  let c0_i32_634 : BitVec 32 := 0#32
  ![v1095.toNat, 0]
def k0_off441 (v1093 : BitVec 32) : Fin 2 → Nat :=
  let c0_i32_635 : BitVec 32 := 0#32
  ![v1093.toNat, 0]

def k0_chk182 (v1093 : BitVec 32) : Prop :=
  (∀ a, (k0_off441 v1093) a + S1x64.size a ≤ S1000000x64.size a)
instance k0_chk182.dec : ∀ (v1093 : BitVec 32), Decidable (k0_chk182 v1093) := fun v1093 => decidable_of_iff' _ (Iff.of_eq (k0_chk182.eq_1 v1093))
theorem k0_off441_inb : ∀ (v1093 : BitVec 32) (k0_hw182 : k0_chk182 v1093), ∀ a, (k0_off441 v1093) a + S1x64.size a ≤ S1000000x64.size a := fun v1093 k0_hw182 => k0_hw182

def k0_off442 (k0_t4 : Fin k0_t4_loop.trips) (c0_i32_633 : BitVec 32) : Fin 2 → Nat :=
  let c0_i32_13 : BitVec 32 := 0#32
  let c1_i32_15 : BitVec 32 := 1#32
  let arg13 : BitVec 32 := Scf.iv c0_i32_13 c1_i32_15 k0_t4
  let c16_i32_627 : BitVec 32 := 16#32
  let v1080 : BitVec 32 := Scalar.muli arg13 c16_i32_627
  let c14_i32 : BitVec 32 := 14#32
  let v1081 : BitVec 32 := Scalar.addi v1080 c14_i32
  let c5_i32_632 : BitVec 32 := 5#32
  let v1094 : BitVec 32 := Scalar.muli v1081 c5_i32_632
  let v1095 : BitVec 32 := Scalar.addi v1094 c0_i32_633
  let c0_i32_636 : BitVec 32 := 0#32
  ![v1095.toNat, 0]
def k0_off443 (v1105 : BitVec 32) : Fin 2 → Nat :=
  let c0_i32_641 : BitVec 32 := 0#32
  ![v1105.toNat, 0]

def k0_chk183 (v1105 : BitVec 32) : Prop :=
  (∀ a, (k0_off443 v1105) a + S1x64.size a ≤ S1000000x64.size a)
instance k0_chk183.dec : ∀ (v1105 : BitVec 32), Decidable (k0_chk183 v1105) := fun v1105 => decidable_of_iff' _ (Iff.of_eq (k0_chk183.eq_1 v1105))
theorem k0_off443_inb : ∀ (v1105 : BitVec 32) (k0_hw183 : k0_chk183 v1105), ∀ a, (k0_off443 v1105) a + S1x64.size a ≤ S1000000x64.size a := fun v1105 k0_hw183 => k0_hw183

def k0_off444 (k0_t4 : Fin k0_t4_loop.trips) (c1_i32_639 : BitVec 32) : Fin 2 → Nat :=
  let c0_i32_13 : BitVec 32 := 0#32
  let c1_i32_15 : BitVec 32 := 1#32
  let arg13 : BitVec 32 := Scf.iv c0_i32_13 c1_i32_15 k0_t4
  let c16_i32_627 : BitVec 32 := 16#32
  let v1080 : BitVec 32 := Scalar.muli arg13 c16_i32_627
  let c14_i32 : BitVec 32 := 14#32
  let v1081 : BitVec 32 := Scalar.addi v1080 c14_i32
  let c5_i32_638 : BitVec 32 := 5#32
  let v1106 : BitVec 32 := Scalar.muli v1081 c5_i32_638
  let v1107 : BitVec 32 := Scalar.addi v1106 c1_i32_639
  let c0_i32_642 : BitVec 32 := 0#32
  ![v1107.toNat, 0]
def k0_off445 (v1117 : BitVec 32) : Fin 2 → Nat :=
  let c0_i32_647 : BitVec 32 := 0#32
  ![v1117.toNat, 0]

def k0_chk184 (v1117 : BitVec 32) : Prop :=
  (∀ a, (k0_off445 v1117) a + S1x64.size a ≤ S1000000x64.size a)
instance k0_chk184.dec : ∀ (v1117 : BitVec 32), Decidable (k0_chk184 v1117) := fun v1117 => decidable_of_iff' _ (Iff.of_eq (k0_chk184.eq_1 v1117))
theorem k0_off445_inb : ∀ (v1117 : BitVec 32) (k0_hw184 : k0_chk184 v1117), ∀ a, (k0_off445 v1117) a + S1x64.size a ≤ S1000000x64.size a := fun v1117 k0_hw184 => k0_hw184

def k0_off446 (k0_t4 : Fin k0_t4_loop.trips) (c2_i32_645 : BitVec 32) : Fin 2 → Nat :=
  let c0_i32_13 : BitVec 32 := 0#32
  let c1_i32_15 : BitVec 32 := 1#32
  let arg13 : BitVec 32 := Scf.iv c0_i32_13 c1_i32_15 k0_t4
  let c16_i32_627 : BitVec 32 := 16#32
  let v1080 : BitVec 32 := Scalar.muli arg13 c16_i32_627
  let c14_i32 : BitVec 32 := 14#32
  let v1081 : BitVec 32 := Scalar.addi v1080 c14_i32
  let c5_i32_644 : BitVec 32 := 5#32
  let v1118 : BitVec 32 := Scalar.muli v1081 c5_i32_644
  let v1119 : BitVec 32 := Scalar.addi v1118 c2_i32_645
  let c0_i32_648 : BitVec 32 := 0#32
  ![v1119.toNat, 0]
def k0_off447 (v1129 : BitVec 32) : Fin 2 → Nat :=
  let c0_i32_653 : BitVec 32 := 0#32
  ![v1129.toNat, 0]

def k0_chk185 (v1129 : BitVec 32) : Prop :=
  (∀ a, (k0_off447 v1129) a + S1x64.size a ≤ S1000000x64.size a)
instance k0_chk185.dec : ∀ (v1129 : BitVec 32), Decidable (k0_chk185 v1129) := fun v1129 => decidable_of_iff' _ (Iff.of_eq (k0_chk185.eq_1 v1129))
theorem k0_off447_inb : ∀ (v1129 : BitVec 32) (k0_hw185 : k0_chk185 v1129), ∀ a, (k0_off447 v1129) a + S1x64.size a ≤ S1000000x64.size a := fun v1129 k0_hw185 => k0_hw185

def k0_off448 (k0_t4 : Fin k0_t4_loop.trips) (c3_i32_651 : BitVec 32) : Fin 2 → Nat :=
  let c0_i32_13 : BitVec 32 := 0#32
  let c1_i32_15 : BitVec 32 := 1#32
  let arg13 : BitVec 32 := Scf.iv c0_i32_13 c1_i32_15 k0_t4
  let c16_i32_627 : BitVec 32 := 16#32
  let v1080 : BitVec 32 := Scalar.muli arg13 c16_i32_627
  let c14_i32 : BitVec 32 := 14#32
  let v1081 : BitVec 32 := Scalar.addi v1080 c14_i32
  let c5_i32_650 : BitVec 32 := 5#32
  let v1130 : BitVec 32 := Scalar.muli v1081 c5_i32_650
  let v1131 : BitVec 32 := Scalar.addi v1130 c3_i32_651
  let c0_i32_654 : BitVec 32 := 0#32
  ![v1131.toNat, 0]
def k0_off449 (v1141 : BitVec 32) : Fin 2 → Nat :=
  let c0_i32_659 : BitVec 32 := 0#32
  ![v1141.toNat, 0]

def k0_chk186 (v1141 : BitVec 32) : Prop :=
  (∀ a, (k0_off449 v1141) a + S1x64.size a ≤ S1000000x64.size a)
instance k0_chk186.dec : ∀ (v1141 : BitVec 32), Decidable (k0_chk186 v1141) := fun v1141 => decidable_of_iff' _ (Iff.of_eq (k0_chk186.eq_1 v1141))
theorem k0_off449_inb : ∀ (v1141 : BitVec 32) (k0_hw186 : k0_chk186 v1141), ∀ a, (k0_off449 v1141) a + S1x64.size a ≤ S1000000x64.size a := fun v1141 k0_hw186 => k0_hw186

def k0_off450 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_627 : BitVec 32 := 16#32
  let v1080 : BitVec 32 := Scalar.muli arg13 c16_i32_627
  let c14_i32 : BitVec 32 := 14#32
  let v1081 : BitVec 32 := Scalar.addi v1080 c14_i32
  let c5_i32_656 : BitVec 32 := 5#32
  let v1142 : BitVec 32 := Scalar.muli v1081 c5_i32_656
  let c4_i32_657 : BitVec 32 := 4#32
  let v1143 : BitVec 32 := Scalar.addi v1142 c4_i32_657
  let c0_i32_660 : BitVec 32 := 0#32
  ![v1143.toNat, 0]
def k0_off451 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_662 : BitVec 32 := 16#32
  let v1152 : BitVec 32 := Scalar.muli arg13 c16_i32_662
  let c15_i32 : BitVec 32 := 15#32
  let v1153 : BitVec 32 := Scalar.addi v1152 c15_i32
  let c0_i32_663 : BitVec 32 := 0#32
  ![v1153.toNat, 0]
def k0_off452 (v1155 : BitVec 32) : Fin 2 → Nat :=
  let c0_i32_664 : BitVec 32 := 0#32
  ![v1155.toNat, 0]

def k0_chk187 (v1155 : BitVec 32) : Prop :=
  (∀ a, (k0_off452 v1155) a + S1x64.size a ≤ S1000000x64.size a)
instance k0_chk187.dec : ∀ (v1155 : BitVec 32), Decidable (k0_chk187 v1155) := fun v1155 => decidable_of_iff' _ (Iff.of_eq (k0_chk187.eq_1 v1155))
theorem k0_off452_inb : ∀ (v1155 : BitVec 32) (k0_hw187 : k0_chk187 v1155), ∀ a, (k0_off452 v1155) a + S1x64.size a ≤ S1000000x64.size a := fun v1155 k0_hw187 => k0_hw187

def k0_off453 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_662 : BitVec 32 := 16#32
  let v1152 : BitVec 32 := Scalar.muli arg13 c16_i32_662
  let c15_i32 : BitVec 32 := 15#32
  let v1153 : BitVec 32 := Scalar.addi v1152 c15_i32
  let c0_i32_665 : BitVec 32 := 0#32
  ![v1153.toNat, 0]
def k0_off454 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_662 : BitVec 32 := 16#32
  let v1152 : BitVec 32 := Scalar.muli arg13 c16_i32_662
  let c15_i32 : BitVec 32 := 15#32
  let v1153 : BitVec 32 := Scalar.addi v1152 c15_i32
  let c5_i32_667 : BitVec 32 := 5#32
  let v1166 : BitVec 32 := Scalar.muli v1153 c5_i32_667
  let c0_i32_668 : BitVec 32 := 0#32
  let v1167 : BitVec 32 := Scalar.addi v1166 c0_i32_668
  let c0_i32_669 : BitVec 32 := 0#32
  ![v1167.toNat, 0]
def k0_off455 (v1165 : BitVec 32) : Fin 2 → Nat :=
  let c0_i32_670 : BitVec 32 := 0#32
  ![v1165.toNat, 0]

def k0_chk188 (v1165 : BitVec 32) : Prop :=
  (∀ a, (k0_off455 v1165) a + S1x64.size a ≤ S1000000x64.size a)
instance k0_chk188.dec : ∀ (v1165 : BitVec 32), Decidable (k0_chk188 v1165) := fun v1165 => decidable_of_iff' _ (Iff.of_eq (k0_chk188.eq_1 v1165))
theorem k0_off455_inb : ∀ (v1165 : BitVec 32) (k0_hw188 : k0_chk188 v1165), ∀ a, (k0_off455 v1165) a + S1x64.size a ≤ S1000000x64.size a := fun v1165 k0_hw188 => k0_hw188

def k0_off456 (k0_t4 : Fin k0_t4_loop.trips) (c0_i32_668 : BitVec 32) : Fin 2 → Nat :=
  let c0_i32_13 : BitVec 32 := 0#32
  let c1_i32_15 : BitVec 32 := 1#32
  let arg13 : BitVec 32 := Scf.iv c0_i32_13 c1_i32_15 k0_t4
  let c16_i32_662 : BitVec 32 := 16#32
  let v1152 : BitVec 32 := Scalar.muli arg13 c16_i32_662
  let c15_i32 : BitVec 32 := 15#32
  let v1153 : BitVec 32 := Scalar.addi v1152 c15_i32
  let c5_i32_667 : BitVec 32 := 5#32
  let v1166 : BitVec 32 := Scalar.muli v1153 c5_i32_667
  let v1167 : BitVec 32 := Scalar.addi v1166 c0_i32_668
  let c0_i32_671 : BitVec 32 := 0#32
  ![v1167.toNat, 0]
def k0_off457 (v1177 : BitVec 32) : Fin 2 → Nat :=
  let c0_i32_676 : BitVec 32 := 0#32
  ![v1177.toNat, 0]

def k0_chk189 (v1177 : BitVec 32) : Prop :=
  (∀ a, (k0_off457 v1177) a + S1x64.size a ≤ S1000000x64.size a)
instance k0_chk189.dec : ∀ (v1177 : BitVec 32), Decidable (k0_chk189 v1177) := fun v1177 => decidable_of_iff' _ (Iff.of_eq (k0_chk189.eq_1 v1177))
theorem k0_off457_inb : ∀ (v1177 : BitVec 32) (k0_hw189 : k0_chk189 v1177), ∀ a, (k0_off457 v1177) a + S1x64.size a ≤ S1000000x64.size a := fun v1177 k0_hw189 => k0_hw189

def k0_off458 (k0_t4 : Fin k0_t4_loop.trips) (c1_i32_674 : BitVec 32) : Fin 2 → Nat :=
  let c0_i32_13 : BitVec 32 := 0#32
  let c1_i32_15 : BitVec 32 := 1#32
  let arg13 : BitVec 32 := Scf.iv c0_i32_13 c1_i32_15 k0_t4
  let c16_i32_662 : BitVec 32 := 16#32
  let v1152 : BitVec 32 := Scalar.muli arg13 c16_i32_662
  let c15_i32 : BitVec 32 := 15#32
  let v1153 : BitVec 32 := Scalar.addi v1152 c15_i32
  let c5_i32_673 : BitVec 32 := 5#32
  let v1178 : BitVec 32 := Scalar.muli v1153 c5_i32_673
  let v1179 : BitVec 32 := Scalar.addi v1178 c1_i32_674
  let c0_i32_677 : BitVec 32 := 0#32
  ![v1179.toNat, 0]
def k0_off459 (v1189 : BitVec 32) : Fin 2 → Nat :=
  let c0_i32_682 : BitVec 32 := 0#32
  ![v1189.toNat, 0]

def k0_chk190 (v1189 : BitVec 32) : Prop :=
  (∀ a, (k0_off459 v1189) a + S1x64.size a ≤ S1000000x64.size a)
instance k0_chk190.dec : ∀ (v1189 : BitVec 32), Decidable (k0_chk190 v1189) := fun v1189 => decidable_of_iff' _ (Iff.of_eq (k0_chk190.eq_1 v1189))
theorem k0_off459_inb : ∀ (v1189 : BitVec 32) (k0_hw190 : k0_chk190 v1189), ∀ a, (k0_off459 v1189) a + S1x64.size a ≤ S1000000x64.size a := fun v1189 k0_hw190 => k0_hw190

def k0_off460 (k0_t4 : Fin k0_t4_loop.trips) (c2_i32_680 : BitVec 32) : Fin 2 → Nat :=
  let c0_i32_13 : BitVec 32 := 0#32
  let c1_i32_15 : BitVec 32 := 1#32
  let arg13 : BitVec 32 := Scf.iv c0_i32_13 c1_i32_15 k0_t4
  let c16_i32_662 : BitVec 32 := 16#32
  let v1152 : BitVec 32 := Scalar.muli arg13 c16_i32_662
  let c15_i32 : BitVec 32 := 15#32
  let v1153 : BitVec 32 := Scalar.addi v1152 c15_i32
  let c5_i32_679 : BitVec 32 := 5#32
  let v1190 : BitVec 32 := Scalar.muli v1153 c5_i32_679
  let v1191 : BitVec 32 := Scalar.addi v1190 c2_i32_680
  let c0_i32_683 : BitVec 32 := 0#32
  ![v1191.toNat, 0]
def k0_off461 (v1201 : BitVec 32) : Fin 2 → Nat :=
  let c0_i32_688 : BitVec 32 := 0#32
  ![v1201.toNat, 0]

def k0_chk191 (v1201 : BitVec 32) : Prop :=
  (∀ a, (k0_off461 v1201) a + S1x64.size a ≤ S1000000x64.size a)
instance k0_chk191.dec : ∀ (v1201 : BitVec 32), Decidable (k0_chk191 v1201) := fun v1201 => decidable_of_iff' _ (Iff.of_eq (k0_chk191.eq_1 v1201))
theorem k0_off461_inb : ∀ (v1201 : BitVec 32) (k0_hw191 : k0_chk191 v1201), ∀ a, (k0_off461 v1201) a + S1x64.size a ≤ S1000000x64.size a := fun v1201 k0_hw191 => k0_hw191

def k0_off462 (k0_t4 : Fin k0_t4_loop.trips) (c3_i32_686 : BitVec 32) : Fin 2 → Nat :=
  let c0_i32_13 : BitVec 32 := 0#32
  let c1_i32_15 : BitVec 32 := 1#32
  let arg13 : BitVec 32 := Scf.iv c0_i32_13 c1_i32_15 k0_t4
  let c16_i32_662 : BitVec 32 := 16#32
  let v1152 : BitVec 32 := Scalar.muli arg13 c16_i32_662
  let c15_i32 : BitVec 32 := 15#32
  let v1153 : BitVec 32 := Scalar.addi v1152 c15_i32
  let c5_i32_685 : BitVec 32 := 5#32
  let v1202 : BitVec 32 := Scalar.muli v1153 c5_i32_685
  let v1203 : BitVec 32 := Scalar.addi v1202 c3_i32_686
  let c0_i32_689 : BitVec 32 := 0#32
  ![v1203.toNat, 0]
def k0_off463 (v1213 : BitVec 32) : Fin 2 → Nat :=
  let c0_i32_694 : BitVec 32 := 0#32
  ![v1213.toNat, 0]

def k0_chk192 (v1213 : BitVec 32) : Prop :=
  (∀ a, (k0_off463 v1213) a + S1x64.size a ≤ S1000000x64.size a)
instance k0_chk192.dec : ∀ (v1213 : BitVec 32), Decidable (k0_chk192 v1213) := fun v1213 => decidable_of_iff' _ (Iff.of_eq (k0_chk192.eq_1 v1213))
theorem k0_off463_inb : ∀ (v1213 : BitVec 32) (k0_hw192 : k0_chk192 v1213), ∀ a, (k0_off463 v1213) a + S1x64.size a ≤ S1000000x64.size a := fun v1213 k0_hw192 => k0_hw192

def k0_off464 (k0_t4 : Fin k0_t4_loop.trips) : Fin 2 → Nat :=
  let c0_i32_13 : BitVec 32 := 0#32
  let c1_i32_15 : BitVec 32 := 1#32
  let arg13 : BitVec 32 := Scf.iv c0_i32_13 c1_i32_15 k0_t4
  let c16_i32_662 : BitVec 32 := 16#32
  let v1152 : BitVec 32 := Scalar.muli arg13 c16_i32_662
  let c15_i32 : BitVec 32 := 15#32
  let v1153 : BitVec 32 := Scalar.addi v1152 c15_i32
  let c5_i32_691 : BitVec 32 := 5#32
  let v1214 : BitVec 32 := Scalar.muli v1153 c5_i32_691
  let c4_i32_692 : BitVec 32 := 4#32
  let v1215 : BitVec 32 := Scalar.addi v1214 c4_i32_692
  let c0_i32_695 : BitVec 32 := 0#32
  ![v1215.toNat, 0]
@[reducible] def k0_t5_loop : Scf.Loop 32 :=
  let c0_i32_18 : BitVec 32 := 0#32
  let c64_i32_19 : BitVec 32 := 64#32
  let v9 : BitVec 32 := Scalar.addi c0_i32_18 c64_i32_19
  let c1_i32_20 : BitVec 32 := 1#32
  ⟨c0_i32_18, v9, c1_i32_20⟩
@[reducible] def k0_t6_loop : Scf.Loop 32 :=
  let c0_i32_23 : BitVec 32 := 0#32
  let c64_i32_24 : BitVec 32 := 64#32
  let v10 : BitVec 32 := Scalar.addi c0_i32_23 c64_i32_24
  let c1_i32_25 : BitVec 32 := 1#32
  ⟨c0_i32_23, v10, c1_i32_25⟩
def k0_off465 (k0_t6 : Fin k0_t6_loop.trips) : Fin 2 → Nat :=
  let c0_i32_23 : BitVec 32 := 0#32
  let c1_i32_25 : BitVec 32 := 1#32
  let arg13 : BitVec 32 := Scf.iv c0_i32_23 c1_i32_25 k0_t6
  let v37 : Index := Scalar.indexCast arg13
  let c0 : Index := 0#32
  ![v37.toNat, 0]
def k0_off466 (k0_t6 : Fin k0_t6_loop.trips) : Fin 2 → Nat :=
  let c0_i32_23 : BitVec 32 := 0#32
  let c1_i32_25 : BitVec 32 := 1#32
  let arg13 : BitVec 32 := Scf.iv c0_i32_23 c1_i32_25 k0_t6
  let v40 : Index := Scalar.indexCast arg13
  let c16 : Index := 16#32
  ![v40.toNat, 16]
def k0_off467 (k0_t6 : Fin k0_t6_loop.trips) : Fin 2 → Nat :=
  let c0_i32_23 : BitVec 32 := 0#32
  let c1_i32_25 : BitVec 32 := 1#32
  let arg13 : BitVec 32 := Scf.iv c0_i32_23 c1_i32_25 k0_t6
  let v43 : Index := Scalar.indexCast arg13
  let c32 : Index := 32#32
  ![v43.toNat, 32]
def k0_off468 (k0_t6 : Fin k0_t6_loop.trips) : Fin 2 → Nat :=
  let c0_i32_23 : BitVec 32 := 0#32
  let c1_i32_25 : BitVec 32 := 1#32
  let arg13 : BitVec 32 := Scf.iv c0_i32_23 c1_i32_25 k0_t6
  let v46 : Index := Scalar.indexCast arg13
  let c48 : Index := 48#32
  ![v46.toNat, 48]
def k0_off469 (k0_t6 : Fin k0_t6_loop.trips) (c0_i32_121 : BitVec 32) : Fin 2 → Nat :=
  let c0_i32_23 : BitVec 32 := 0#32
  let c1_i32_25 : BitVec 32 := 1#32
  let arg13 : BitVec 32 := Scf.iv c0_i32_23 c1_i32_25 k0_t6
  let c5_i32_120 : BitVec 32 := 5#32
  let v51 : BitVec 32 := Scalar.muli arg13 c5_i32_120
  let v52 : BitVec 32 := Scalar.addi v51 c0_i32_121
  let v53 : Index := Scalar.indexCast v52
  let c0_122 : Index := 0#32
  ![v53.toNat, 0]
def k0_off470 (k0_t6 : Fin k0_t6_loop.trips) (c0_i32_121 : BitVec 32) : Fin 2 → Nat :=
  let c0_i32_23 : BitVec 32 := 0#32
  let c1_i32_25 : BitVec 32 := 1#32
  let arg13 : BitVec 32 := Scf.iv c0_i32_23 c1_i32_25 k0_t6
  let c5_i32_120 : BitVec 32 := 5#32
  let v51 : BitVec 32 := Scalar.muli arg13 c5_i32_120
  let v52 : BitVec 32 := Scalar.addi v51 c0_i32_121
  let v57 : Index := Scalar.indexCast v52
  let c16_123 : Index := 16#32
  ![v57.toNat, 16]
def k0_off471 (k0_t6 : Fin k0_t6_loop.trips) (c0_i32_121 : BitVec 32) : Fin 2 → Nat :=
  let c0_i32_23 : BitVec 32 := 0#32
  let c1_i32_25 : BitVec 32 := 1#32
  let arg13 : BitVec 32 := Scf.iv c0_i32_23 c1_i32_25 k0_t6
  let c5_i32_120 : BitVec 32 := 5#32
  let v51 : BitVec 32 := Scalar.muli arg13 c5_i32_120
  let v52 : BitVec 32 := Scalar.addi v51 c0_i32_121
  let v62 : Index := Scalar.indexCast v52
  let c32_124 : Index := 32#32
  ![v62.toNat, 32]
def k0_off472 (k0_t6 : Fin k0_t6_loop.trips) (c0_i32_121 : BitVec 32) : Fin 2 → Nat :=
  let c0_i32_23 : BitVec 32 := 0#32
  let c1_i32_25 : BitVec 32 := 1#32
  let arg13 : BitVec 32 := Scf.iv c0_i32_23 c1_i32_25 k0_t6
  let c5_i32_120 : BitVec 32 := 5#32
  let v51 : BitVec 32 := Scalar.muli arg13 c5_i32_120
  let v52 : BitVec 32 := Scalar.addi v51 c0_i32_121
  let v67 : Index := Scalar.indexCast v52
  let c48_125 : Index := 48#32
  ![v67.toNat, 48]
def k0_off473 (k0_t6 : Fin k0_t6_loop.trips) (c0_i32_126 : BitVec 32) : Fin 1 → Nat :=
  let c64_i32_118 : BitVec 32 := 64#32
  let c0_i32_23 : BitVec 32 := 0#32
  let c1_i32_25 : BitVec 32 := 1#32
  let arg13 : BitVec 32 := Scf.iv c0_i32_23 c1_i32_25 k0_t6
  let v49 : BitVec 32 := Scalar.addi c64_i32_118 arg13
  let c80_i32_119 : BitVec 32 := 80#32
  let v50 : BitVec 32 := Scalar.muli v49 c80_i32_119
  let v74 : BitVec 32 := Scalar.addi v50 c0_i32_126
  let v75 : Index := Scalar.indexCast v74
  ![v75.toNat]
@[reducible] def k0_t7_loop : Scf.Loop 32 :=
  let c0_i32_29 : BitVec 32 := 0#32
  let c4_i32_30 : BitVec 32 := 4#32
  let v12 : BitVec 32 := Scalar.addi c0_i32_29 c4_i32_30
  let c1_i32_31 : BitVec 32 := 1#32
  ⟨c0_i32_29, v12, c1_i32_31⟩
def k0_off474 (k0_t7 : Fin k0_t7_loop.trips) : Fin 1 → Nat :=
  let c128_i32_118 : BitVec 32 := 128#32
  let c0_i32_29 : BitVec 32 := 0#32
  let c1_i32_31 : BitVec 32 := 1#32
  let arg13 : BitVec 32 := Scf.iv c0_i32_29 c1_i32_31 k0_t7
  let c16_i32 : BitVec 32 := 16#32
  let v37 : BitVec 32 := Scalar.muli arg13 c16_i32
  let v38 : BitVec 32 := Scalar.addi c128_i32_118 v37
  let v39 : Index := Scalar.indexCast v38
  ![v39.toNat]
def k0_off475 (k0_t7 : Fin k0_t7_loop.trips) (c0_i32_120 : BitVec 32) : Fin 1 → Nat :=
  let c640_i32 : BitVec 32 := 640#32
  let c0_i32_29 : BitVec 32 := 0#32
  let c1_i32_31 : BitVec 32 := 1#32
  let arg13 : BitVec 32 := Scf.iv c0_i32_29 c1_i32_31 k0_t7
  let c80_i32_119 : BitVec 32 := 80#32
  let v42 : BitVec 32 := Scalar.muli arg13 c80_i32_119
  let v43 : BitVec 32 := Scalar.addi c640_i32 v42
  let v44 : BitVec 32 := Scalar.addi v43 c0_i32_120
  let v45 : Index := Scalar.indexCast v44
  ![v45.toNat]
def k0_off476 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_131 : BitVec 32 := 16#32
  let v72 : BitVec 32 := Scalar.muli arg13 c16_i32_131
  let c0_i32_132 : BitVec 32 := 0#32
  let v73 : BitVec 32 := Scalar.addi v72 c0_i32_132
  let c0_i32_133 : BitVec 32 := 0#32
  ![v73.toNat, 0]
def k0_off477 (v75 : BitVec 32) : Fin 2 → Nat :=
  let c0_i32_134 : BitVec 32 := 0#32
  ![v75.toNat, 0]

def k0_chk193 (v75 : BitVec 32) : Prop :=
  (∀ a, (k0_off477 v75) a + S1x64.size a ≤ S1000000x64.size a)
instance k0_chk193.dec : ∀ (v75 : BitVec 32), Decidable (k0_chk193 v75) := fun v75 => decidable_of_iff' _ (Iff.of_eq (k0_chk193.eq_1 v75))
theorem k0_off477_inb : ∀ (v75 : BitVec 32) (k0_hw193 : k0_chk193 v75), ∀ a, (k0_off477 v75) a + S1x64.size a ≤ S1000000x64.size a := fun v75 k0_hw193 => k0_hw193

def k0_off478 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_131 : BitVec 32 := 16#32
  let v72 : BitVec 32 := Scalar.muli arg13 c16_i32_131
  let c0_i32_132 : BitVec 32 := 0#32
  let v73 : BitVec 32 := Scalar.addi v72 c0_i32_132
  let c0_i32_135 : BitVec 32 := 0#32
  ![v73.toNat, 0]
def k0_off479 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_131 : BitVec 32 := 16#32
  let v72 : BitVec 32 := Scalar.muli arg13 c16_i32_131
  let c0_i32_132 : BitVec 32 := 0#32
  let v73 : BitVec 32 := Scalar.addi v72 c0_i32_132
  let c5_i32_137 : BitVec 32 := 5#32
  let v86 : BitVec 32 := Scalar.muli v73 c5_i32_137
  let c0_i32_138 : BitVec 32 := 0#32
  let v87 : BitVec 32 := Scalar.addi v86 c0_i32_138
  let c0_i32_139 : BitVec 32 := 0#32
  ![v87.toNat, 0]
def k0_off480 (v85 : BitVec 32) : Fin 2 → Nat :=
  let c0_i32_140 : BitVec 32 := 0#32
  ![v85.toNat, 0]

def k0_chk194 (v85 : BitVec 32) : Prop :=
  (∀ a, (k0_off480 v85) a + S1x64.size a ≤ S1000000x64.size a)
instance k0_chk194.dec : ∀ (v85 : BitVec 32), Decidable (k0_chk194 v85) := fun v85 => decidable_of_iff' _ (Iff.of_eq (k0_chk194.eq_1 v85))
theorem k0_off480_inb : ∀ (v85 : BitVec 32) (k0_hw194 : k0_chk194 v85), ∀ a, (k0_off480 v85) a + S1x64.size a ≤ S1000000x64.size a := fun v85 k0_hw194 => k0_hw194

def k0_off481 (k0_t7 : Fin k0_t7_loop.trips) (c0_i32_138 : BitVec 32) : Fin 2 → Nat :=
  let c0_i32_29 : BitVec 32 := 0#32
  let c1_i32_31 : BitVec 32 := 1#32
  let arg13 : BitVec 32 := Scf.iv c0_i32_29 c1_i32_31 k0_t7
  let c16_i32_131 : BitVec 32 := 16#32
  let v72 : BitVec 32 := Scalar.muli arg13 c16_i32_131
  let c0_i32_132 : BitVec 32 := 0#32
  let v73 : BitVec 32 := Scalar.addi v72 c0_i32_132
  let c5_i32_137 : BitVec 32 := 5#32
  let v86 : BitVec 32 := Scalar.muli v73 c5_i32_137
  let v87 : BitVec 32 := Scalar.addi v86 c0_i32_138
  let c0_i32_141 : BitVec 32 := 0#32
  ![v87.toNat, 0]
def k0_off482 (v97 : BitVec 32) : Fin 2 → Nat :=
  let c0_i32_146 : BitVec 32 := 0#32
  ![v97.toNat, 0]

def k0_chk195 (v97 : BitVec 32) : Prop :=
  (∀ a, (k0_off482 v97) a + S1x64.size a ≤ S1000000x64.size a)
instance k0_chk195.dec : ∀ (v97 : BitVec 32), Decidable (k0_chk195 v97) := fun v97 => decidable_of_iff' _ (Iff.of_eq (k0_chk195.eq_1 v97))
theorem k0_off482_inb : ∀ (v97 : BitVec 32) (k0_hw195 : k0_chk195 v97), ∀ a, (k0_off482 v97) a + S1x64.size a ≤ S1000000x64.size a := fun v97 k0_hw195 => k0_hw195

def k0_off483 (k0_t7 : Fin k0_t7_loop.trips) (c1_i32_144 : BitVec 32) : Fin 2 → Nat :=
  let c0_i32_29 : BitVec 32 := 0#32
  let c1_i32_31 : BitVec 32 := 1#32
  let arg13 : BitVec 32 := Scf.iv c0_i32_29 c1_i32_31 k0_t7
  let c16_i32_131 : BitVec 32 := 16#32
  let v72 : BitVec 32 := Scalar.muli arg13 c16_i32_131
  let c0_i32_132 : BitVec 32 := 0#32
  let v73 : BitVec 32 := Scalar.addi v72 c0_i32_132
  let c5_i32_143 : BitVec 32 := 5#32
  let v98 : BitVec 32 := Scalar.muli v73 c5_i32_143
  let v99 : BitVec 32 := Scalar.addi v98 c1_i32_144
  let c0_i32_147 : BitVec 32 := 0#32
  ![v99.toNat, 0]
def k0_off484 (v109 : BitVec 32) : Fin 2 → Nat :=
  let c0_i32_152 : BitVec 32 := 0#32
  ![v109.toNat, 0]

def k0_chk196 (v109 : BitVec 32) : Prop :=
  (∀ a, (k0_off484 v109) a + S1x64.size a ≤ S1000000x64.size a)
instance k0_chk196.dec : ∀ (v109 : BitVec 32), Decidable (k0_chk196 v109) := fun v109 => decidable_of_iff' _ (Iff.of_eq (k0_chk196.eq_1 v109))
theorem k0_off484_inb : ∀ (v109 : BitVec 32) (k0_hw196 : k0_chk196 v109), ∀ a, (k0_off484 v109) a + S1x64.size a ≤ S1000000x64.size a := fun v109 k0_hw196 => k0_hw196

def k0_off485 (k0_t7 : Fin k0_t7_loop.trips) (c2_i32_150 : BitVec 32) : Fin 2 → Nat :=
  let c0_i32_29 : BitVec 32 := 0#32
  let c1_i32_31 : BitVec 32 := 1#32
  let arg13 : BitVec 32 := Scf.iv c0_i32_29 c1_i32_31 k0_t7
  let c16_i32_131 : BitVec 32 := 16#32
  let v72 : BitVec 32 := Scalar.muli arg13 c16_i32_131
  let c0_i32_132 : BitVec 32 := 0#32
  let v73 : BitVec 32 := Scalar.addi v72 c0_i32_132
  let c5_i32_149 : BitVec 32 := 5#32
  let v110 : BitVec 32 := Scalar.muli v73 c5_i32_149
  let v111 : BitVec 32 := Scalar.addi v110 c2_i32_150
  let c0_i32_153 : BitVec 32 := 0#32
  ![v111.toNat, 0]
def k0_off486 (v121 : BitVec 32) : Fin 2 → Nat :=
  let c0_i32_157 : BitVec 32 := 0#32
  ![v121.toNat, 0]

def k0_chk197 (v121 : BitVec 32) : Prop :=
  (∀ a, (k0_off486 v121) a + S1x64.size a ≤ S1000000x64.size a)
instance k0_chk197.dec : ∀ (v121 : BitVec 32), Decidable (k0_chk197 v121) := fun v121 => decidable_of_iff' _ (Iff.of_eq (k0_chk197.eq_1 v121))
theorem k0_off486_inb : ∀ (v121 : BitVec 32) (k0_hw197 : k0_chk197 v121), ∀ a, (k0_off486 v121) a + S1x64.size a ≤ S1000000x64.size a := fun v121 k0_hw197 => k0_hw197

def k0_off487 (k0_t7 : Fin k0_t7_loop.trips) (c3_i32 : BitVec 32) : Fin 2 → Nat :=
  let c0_i32_29 : BitVec 32 := 0#32
  let c1_i32_31 : BitVec 32 := 1#32
  let arg13 : BitVec 32 := Scf.iv c0_i32_29 c1_i32_31 k0_t7
  let c16_i32_131 : BitVec 32 := 16#32
  let v72 : BitVec 32 := Scalar.muli arg13 c16_i32_131
  let c0_i32_132 : BitVec 32 := 0#32
  let v73 : BitVec 32 := Scalar.addi v72 c0_i32_132
  let c5_i32_155 : BitVec 32 := 5#32
  let v122 : BitVec 32 := Scalar.muli v73 c5_i32_155
  let v123 : BitVec 32 := Scalar.addi v122 c3_i32
  let c0_i32_158 : BitVec 32 := 0#32
  ![v123.toNat, 0]
def k0_off488 (v133 : BitVec 32) : Fin 2 → Nat :=
  let c0_i32_163 : BitVec 32 := 0#32
  ![v133.toNat, 0]

def k0_chk198 (v133 : BitVec 32) : Prop :=
  (∀ a, (k0_off488 v133) a + S1x64.size a ≤ S1000000x64.size a)
instance k0_chk198.dec : ∀ (v133 : BitVec 32), Decidable (k0_chk198 v133) := fun v133 => decidable_of_iff' _ (Iff.of_eq (k0_chk198.eq_1 v133))
theorem k0_off488_inb : ∀ (v133 : BitVec 32) (k0_hw198 : k0_chk198 v133), ∀ a, (k0_off488 v133) a + S1x64.size a ≤ S1000000x64.size a := fun v133 k0_hw198 => k0_hw198

def k0_off489 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_131 : BitVec 32 := 16#32
  let v72 : BitVec 32 := Scalar.muli arg13 c16_i32_131
  let c0_i32_132 : BitVec 32 := 0#32
  let v73 : BitVec 32 := Scalar.addi v72 c0_i32_132
  let c5_i32_160 : BitVec 32 := 5#32
  let v134 : BitVec 32 := Scalar.muli v73 c5_i32_160
  let c4_i32_161 : BitVec 32 := 4#32
  let v135 : BitVec 32 := Scalar.addi v134 c4_i32_161
  let c0_i32_164 : BitVec 32 := 0#32
  ![v135.toNat, 0]
def k0_off490 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_166 : BitVec 32 := 16#32
  let v144 : BitVec 32 := Scalar.muli arg13 c16_i32_166
  let c1_i32_167 : BitVec 32 := 1#32
  let v145 : BitVec 32 := Scalar.addi v144 c1_i32_167
  let c0_i32_168 : BitVec 32 := 0#32
  ![v145.toNat, 0]
def k0_off491 (v147 : BitVec 32) : Fin 2 → Nat :=
  let c0_i32_169 : BitVec 32 := 0#32
  ![v147.toNat, 0]

def k0_chk199 (v147 : BitVec 32) : Prop :=
  (∀ a, (k0_off491 v147) a + S1x64.size a ≤ S1000000x64.size a)
instance k0_chk199.dec : ∀ (v147 : BitVec 32), Decidable (k0_chk199 v147) := fun v147 => decidable_of_iff' _ (Iff.of_eq (k0_chk199.eq_1 v147))
theorem k0_off491_inb : ∀ (v147 : BitVec 32) (k0_hw199 : k0_chk199 v147), ∀ a, (k0_off491 v147) a + S1x64.size a ≤ S1000000x64.size a := fun v147 k0_hw199 => k0_hw199

def k0_off492 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_166 : BitVec 32 := 16#32
  let v144 : BitVec 32 := Scalar.muli arg13 c16_i32_166
  let c1_i32_167 : BitVec 32 := 1#32
  let v145 : BitVec 32 := Scalar.addi v144 c1_i32_167
  let c0_i32_170 : BitVec 32 := 0#32
  ![v145.toNat, 0]
def k0_off493 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_166 : BitVec 32 := 16#32
  let v144 : BitVec 32 := Scalar.muli arg13 c16_i32_166
  let c1_i32_167 : BitVec 32 := 1#32
  let v145 : BitVec 32 := Scalar.addi v144 c1_i32_167
  let c5_i32_172 : BitVec 32 := 5#32
  let v158 : BitVec 32 := Scalar.muli v145 c5_i32_172
  let c0_i32_173 : BitVec 32 := 0#32
  let v159 : BitVec 32 := Scalar.addi v158 c0_i32_173
  let c0_i32_174 : BitVec 32 := 0#32
  ![v159.toNat, 0]
def k0_off494 (v157 : BitVec 32) : Fin 2 → Nat :=
  let c0_i32_175 : BitVec 32 := 0#32
  ![v157.toNat, 0]

def k0_chk200 (v157 : BitVec 32) : Prop :=
  (∀ a, (k0_off494 v157) a + S1x64.size a ≤ S1000000x64.size a)
instance k0_chk200.dec : ∀ (v157 : BitVec 32), Decidable (k0_chk200 v157) := fun v157 => decidable_of_iff' _ (Iff.of_eq (k0_chk200.eq_1 v157))
theorem k0_off494_inb : ∀ (v157 : BitVec 32) (k0_hw200 : k0_chk200 v157), ∀ a, (k0_off494 v157) a + S1x64.size a ≤ S1000000x64.size a := fun v157 k0_hw200 => k0_hw200

def k0_off495 (k0_t7 : Fin k0_t7_loop.trips) (c0_i32_173 : BitVec 32) : Fin 2 → Nat :=
  let c0_i32_29 : BitVec 32 := 0#32
  let c1_i32_31 : BitVec 32 := 1#32
  let arg13 : BitVec 32 := Scf.iv c0_i32_29 c1_i32_31 k0_t7
  let c16_i32_166 : BitVec 32 := 16#32
  let v144 : BitVec 32 := Scalar.muli arg13 c16_i32_166
  let c1_i32_167 : BitVec 32 := 1#32
  let v145 : BitVec 32 := Scalar.addi v144 c1_i32_167
  let c5_i32_172 : BitVec 32 := 5#32
  let v158 : BitVec 32 := Scalar.muli v145 c5_i32_172
  let v159 : BitVec 32 := Scalar.addi v158 c0_i32_173
  let c0_i32_176 : BitVec 32 := 0#32
  ![v159.toNat, 0]
def k0_off496 (v169 : BitVec 32) : Fin 2 → Nat :=
  let c0_i32_181 : BitVec 32 := 0#32
  ![v169.toNat, 0]

def k0_chk201 (v169 : BitVec 32) : Prop :=
  (∀ a, (k0_off496 v169) a + S1x64.size a ≤ S1000000x64.size a)
instance k0_chk201.dec : ∀ (v169 : BitVec 32), Decidable (k0_chk201 v169) := fun v169 => decidable_of_iff' _ (Iff.of_eq (k0_chk201.eq_1 v169))
theorem k0_off496_inb : ∀ (v169 : BitVec 32) (k0_hw201 : k0_chk201 v169), ∀ a, (k0_off496 v169) a + S1x64.size a ≤ S1000000x64.size a := fun v169 k0_hw201 => k0_hw201

def k0_off497 (k0_t7 : Fin k0_t7_loop.trips) (c1_i32_179 : BitVec 32) : Fin 2 → Nat :=
  let c0_i32_29 : BitVec 32 := 0#32
  let c1_i32_31 : BitVec 32 := 1#32
  let arg13 : BitVec 32 := Scf.iv c0_i32_29 c1_i32_31 k0_t7
  let c16_i32_166 : BitVec 32 := 16#32
  let v144 : BitVec 32 := Scalar.muli arg13 c16_i32_166
  let c1_i32_167 : BitVec 32 := 1#32
  let v145 : BitVec 32 := Scalar.addi v144 c1_i32_167
  let c5_i32_178 : BitVec 32 := 5#32
  let v170 : BitVec 32 := Scalar.muli v145 c5_i32_178
  let v171 : BitVec 32 := Scalar.addi v170 c1_i32_179
  let c0_i32_182 : BitVec 32 := 0#32
  ![v171.toNat, 0]
def k0_off498 (v181 : BitVec 32) : Fin 2 → Nat :=
  let c0_i32_187 : BitVec 32 := 0#32
  ![v181.toNat, 0]

def k0_chk202 (v181 : BitVec 32) : Prop :=
  (∀ a, (k0_off498 v181) a + S1x64.size a ≤ S1000000x64.size a)
instance k0_chk202.dec : ∀ (v181 : BitVec 32), Decidable (k0_chk202 v181) := fun v181 => decidable_of_iff' _ (Iff.of_eq (k0_chk202.eq_1 v181))
theorem k0_off498_inb : ∀ (v181 : BitVec 32) (k0_hw202 : k0_chk202 v181), ∀ a, (k0_off498 v181) a + S1x64.size a ≤ S1000000x64.size a := fun v181 k0_hw202 => k0_hw202

def k0_off499 (k0_t7 : Fin k0_t7_loop.trips) (c2_i32_185 : BitVec 32) : Fin 2 → Nat :=
  let c0_i32_29 : BitVec 32 := 0#32
  let c1_i32_31 : BitVec 32 := 1#32
  let arg13 : BitVec 32 := Scf.iv c0_i32_29 c1_i32_31 k0_t7
  let c16_i32_166 : BitVec 32 := 16#32
  let v144 : BitVec 32 := Scalar.muli arg13 c16_i32_166
  let c1_i32_167 : BitVec 32 := 1#32
  let v145 : BitVec 32 := Scalar.addi v144 c1_i32_167
  let c5_i32_184 : BitVec 32 := 5#32
  let v182 : BitVec 32 := Scalar.muli v145 c5_i32_184
  let v183 : BitVec 32 := Scalar.addi v182 c2_i32_185
  let c0_i32_188 : BitVec 32 := 0#32
  ![v183.toNat, 0]
def k0_off500 (v193 : BitVec 32) : Fin 2 → Nat :=
  let c0_i32_193 : BitVec 32 := 0#32
  ![v193.toNat, 0]

def k0_chk203 (v193 : BitVec 32) : Prop :=
  (∀ a, (k0_off500 v193) a + S1x64.size a ≤ S1000000x64.size a)
instance k0_chk203.dec : ∀ (v193 : BitVec 32), Decidable (k0_chk203 v193) := fun v193 => decidable_of_iff' _ (Iff.of_eq (k0_chk203.eq_1 v193))
theorem k0_off500_inb : ∀ (v193 : BitVec 32) (k0_hw203 : k0_chk203 v193), ∀ a, (k0_off500 v193) a + S1x64.size a ≤ S1000000x64.size a := fun v193 k0_hw203 => k0_hw203

def k0_off501 (k0_t7 : Fin k0_t7_loop.trips) (c3_i32_191 : BitVec 32) : Fin 2 → Nat :=
  let c0_i32_29 : BitVec 32 := 0#32
  let c1_i32_31 : BitVec 32 := 1#32
  let arg13 : BitVec 32 := Scf.iv c0_i32_29 c1_i32_31 k0_t7
  let c16_i32_166 : BitVec 32 := 16#32
  let v144 : BitVec 32 := Scalar.muli arg13 c16_i32_166
  let c1_i32_167 : BitVec 32 := 1#32
  let v145 : BitVec 32 := Scalar.addi v144 c1_i32_167
  let c5_i32_190 : BitVec 32 := 5#32
  let v194 : BitVec 32 := Scalar.muli v145 c5_i32_190
  let v195 : BitVec 32 := Scalar.addi v194 c3_i32_191
  let c0_i32_194 : BitVec 32 := 0#32
  ![v195.toNat, 0]
def k0_off502 (v205 : BitVec 32) : Fin 2 → Nat :=
  let c0_i32_199 : BitVec 32 := 0#32
  ![v205.toNat, 0]

def k0_chk204 (v205 : BitVec 32) : Prop :=
  (∀ a, (k0_off502 v205) a + S1x64.size a ≤ S1000000x64.size a)
instance k0_chk204.dec : ∀ (v205 : BitVec 32), Decidable (k0_chk204 v205) := fun v205 => decidable_of_iff' _ (Iff.of_eq (k0_chk204.eq_1 v205))
theorem k0_off502_inb : ∀ (v205 : BitVec 32) (k0_hw204 : k0_chk204 v205), ∀ a, (k0_off502 v205) a + S1x64.size a ≤ S1000000x64.size a := fun v205 k0_hw204 => k0_hw204

def k0_off503 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_166 : BitVec 32 := 16#32
  let v144 : BitVec 32 := Scalar.muli arg13 c16_i32_166
  let c1_i32_167 : BitVec 32 := 1#32
  let v145 : BitVec 32 := Scalar.addi v144 c1_i32_167
  let c5_i32_196 : BitVec 32 := 5#32
  let v206 : BitVec 32 := Scalar.muli v145 c5_i32_196
  let c4_i32_197 : BitVec 32 := 4#32
  let v207 : BitVec 32 := Scalar.addi v206 c4_i32_197
  let c0_i32_200 : BitVec 32 := 0#32
  ![v207.toNat, 0]
def k0_off504 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_202 : BitVec 32 := 16#32
  let v216 : BitVec 32 := Scalar.muli arg13 c16_i32_202
  let c2_i32_203 : BitVec 32 := 2#32
  let v217 : BitVec 32 := Scalar.addi v216 c2_i32_203
  let c0_i32_204 : BitVec 32 := 0#32
  ![v217.toNat, 0]
def k0_off505 (v219 : BitVec 32) : Fin 2 → Nat :=
  let c0_i32_205 : BitVec 32 := 0#32
  ![v219.toNat, 0]

def k0_chk205 (v219 : BitVec 32) : Prop :=
  (∀ a, (k0_off505 v219) a + S1x64.size a ≤ S1000000x64.size a)
instance k0_chk205.dec : ∀ (v219 : BitVec 32), Decidable (k0_chk205 v219) := fun v219 => decidable_of_iff' _ (Iff.of_eq (k0_chk205.eq_1 v219))
theorem k0_off505_inb : ∀ (v219 : BitVec 32) (k0_hw205 : k0_chk205 v219), ∀ a, (k0_off505 v219) a + S1x64.size a ≤ S1000000x64.size a := fun v219 k0_hw205 => k0_hw205

def k0_off506 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_202 : BitVec 32 := 16#32
  let v216 : BitVec 32 := Scalar.muli arg13 c16_i32_202
  let c2_i32_203 : BitVec 32 := 2#32
  let v217 : BitVec 32 := Scalar.addi v216 c2_i32_203
  let c0_i32_206 : BitVec 32 := 0#32
  ![v217.toNat, 0]
def k0_off507 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_202 : BitVec 32 := 16#32
  let v216 : BitVec 32 := Scalar.muli arg13 c16_i32_202
  let c2_i32_203 : BitVec 32 := 2#32
  let v217 : BitVec 32 := Scalar.addi v216 c2_i32_203
  let c5_i32_208 : BitVec 32 := 5#32
  let v230 : BitVec 32 := Scalar.muli v217 c5_i32_208
  let c0_i32_209 : BitVec 32 := 0#32
  let v231 : BitVec 32 := Scalar.addi v230 c0_i32_209
  let c0_i32_210 : BitVec 32 := 0#32
  ![v231.toNat, 0]
def k0_off508 (v229 : BitVec 32) : Fin 2 → Nat :=
  let c0_i32_211 : BitVec 32 := 0#32
  ![v229.toNat, 0]

def k0_chk206 (v229 : BitVec 32) : Prop :=
  (∀ a, (k0_off508 v229) a + S1x64.size a ≤ S1000000x64.size a)
instance k0_chk206.dec : ∀ (v229 : BitVec 32), Decidable (k0_chk206 v229) := fun v229 => decidable_of_iff' _ (Iff.of_eq (k0_chk206.eq_1 v229))
theorem k0_off508_inb : ∀ (v229 : BitVec 32) (k0_hw206 : k0_chk206 v229), ∀ a, (k0_off508 v229) a + S1x64.size a ≤ S1000000x64.size a := fun v229 k0_hw206 => k0_hw206

def k0_off509 (k0_t7 : Fin k0_t7_loop.trips) (c0_i32_209 : BitVec 32) : Fin 2 → Nat :=
  let c0_i32_29 : BitVec 32 := 0#32
  let c1_i32_31 : BitVec 32 := 1#32
  let arg13 : BitVec 32 := Scf.iv c0_i32_29 c1_i32_31 k0_t7
  let c16_i32_202 : BitVec 32 := 16#32
  let v216 : BitVec 32 := Scalar.muli arg13 c16_i32_202
  let c2_i32_203 : BitVec 32 := 2#32
  let v217 : BitVec 32 := Scalar.addi v216 c2_i32_203
  let c5_i32_208 : BitVec 32 := 5#32
  let v230 : BitVec 32 := Scalar.muli v217 c5_i32_208
  let v231 : BitVec 32 := Scalar.addi v230 c0_i32_209
  let c0_i32_212 : BitVec 32 := 0#32
  ![v231.toNat, 0]
def k0_off510 (v241 : BitVec 32) : Fin 2 → Nat :=
  let c0_i32_217 : BitVec 32 := 0#32
  ![v241.toNat, 0]

def k0_chk207 (v241 : BitVec 32) : Prop :=
  (∀ a, (k0_off510 v241) a + S1x64.size a ≤ S1000000x64.size a)
instance k0_chk207.dec : ∀ (v241 : BitVec 32), Decidable (k0_chk207 v241) := fun v241 => decidable_of_iff' _ (Iff.of_eq (k0_chk207.eq_1 v241))
theorem k0_off510_inb : ∀ (v241 : BitVec 32) (k0_hw207 : k0_chk207 v241), ∀ a, (k0_off510 v241) a + S1x64.size a ≤ S1000000x64.size a := fun v241 k0_hw207 => k0_hw207

def k0_off511 (k0_t7 : Fin k0_t7_loop.trips) (c1_i32_215 : BitVec 32) : Fin 2 → Nat :=
  let c0_i32_29 : BitVec 32 := 0#32
  let c1_i32_31 : BitVec 32 := 1#32
  let arg13 : BitVec 32 := Scf.iv c0_i32_29 c1_i32_31 k0_t7
  let c16_i32_202 : BitVec 32 := 16#32
  let v216 : BitVec 32 := Scalar.muli arg13 c16_i32_202
  let c2_i32_203 : BitVec 32 := 2#32
  let v217 : BitVec 32 := Scalar.addi v216 c2_i32_203
  let c5_i32_214 : BitVec 32 := 5#32
  let v242 : BitVec 32 := Scalar.muli v217 c5_i32_214
  let v243 : BitVec 32 := Scalar.addi v242 c1_i32_215
  let c0_i32_218 : BitVec 32 := 0#32
  ![v243.toNat, 0]
def k0_off512 (v253 : BitVec 32) : Fin 2 → Nat :=
  let c0_i32_223 : BitVec 32 := 0#32
  ![v253.toNat, 0]

def k0_chk208 (v253 : BitVec 32) : Prop :=
  (∀ a, (k0_off512 v253) a + S1x64.size a ≤ S1000000x64.size a)
instance k0_chk208.dec : ∀ (v253 : BitVec 32), Decidable (k0_chk208 v253) := fun v253 => decidable_of_iff' _ (Iff.of_eq (k0_chk208.eq_1 v253))
theorem k0_off512_inb : ∀ (v253 : BitVec 32) (k0_hw208 : k0_chk208 v253), ∀ a, (k0_off512 v253) a + S1x64.size a ≤ S1000000x64.size a := fun v253 k0_hw208 => k0_hw208

def k0_off513 (k0_t7 : Fin k0_t7_loop.trips) (c2_i32_221 : BitVec 32) : Fin 2 → Nat :=
  let c0_i32_29 : BitVec 32 := 0#32
  let c1_i32_31 : BitVec 32 := 1#32
  let arg13 : BitVec 32 := Scf.iv c0_i32_29 c1_i32_31 k0_t7
  let c16_i32_202 : BitVec 32 := 16#32
  let v216 : BitVec 32 := Scalar.muli arg13 c16_i32_202
  let c2_i32_203 : BitVec 32 := 2#32
  let v217 : BitVec 32 := Scalar.addi v216 c2_i32_203
  let c5_i32_220 : BitVec 32 := 5#32
  let v254 : BitVec 32 := Scalar.muli v217 c5_i32_220
  let v255 : BitVec 32 := Scalar.addi v254 c2_i32_221
  let c0_i32_224 : BitVec 32 := 0#32
  ![v255.toNat, 0]
def k0_off514 (v265 : BitVec 32) : Fin 2 → Nat :=
  let c0_i32_229 : BitVec 32 := 0#32
  ![v265.toNat, 0]

def k0_chk209 (v265 : BitVec 32) : Prop :=
  (∀ a, (k0_off514 v265) a + S1x64.size a ≤ S1000000x64.size a)
instance k0_chk209.dec : ∀ (v265 : BitVec 32), Decidable (k0_chk209 v265) := fun v265 => decidable_of_iff' _ (Iff.of_eq (k0_chk209.eq_1 v265))
theorem k0_off514_inb : ∀ (v265 : BitVec 32) (k0_hw209 : k0_chk209 v265), ∀ a, (k0_off514 v265) a + S1x64.size a ≤ S1000000x64.size a := fun v265 k0_hw209 => k0_hw209

def k0_off515 (k0_t7 : Fin k0_t7_loop.trips) (c3_i32_227 : BitVec 32) : Fin 2 → Nat :=
  let c0_i32_29 : BitVec 32 := 0#32
  let c1_i32_31 : BitVec 32 := 1#32
  let arg13 : BitVec 32 := Scf.iv c0_i32_29 c1_i32_31 k0_t7
  let c16_i32_202 : BitVec 32 := 16#32
  let v216 : BitVec 32 := Scalar.muli arg13 c16_i32_202
  let c2_i32_203 : BitVec 32 := 2#32
  let v217 : BitVec 32 := Scalar.addi v216 c2_i32_203
  let c5_i32_226 : BitVec 32 := 5#32
  let v266 : BitVec 32 := Scalar.muli v217 c5_i32_226
  let v267 : BitVec 32 := Scalar.addi v266 c3_i32_227
  let c0_i32_230 : BitVec 32 := 0#32
  ![v267.toNat, 0]
def k0_off516 (v277 : BitVec 32) : Fin 2 → Nat :=
  let c0_i32_235 : BitVec 32 := 0#32
  ![v277.toNat, 0]

def k0_chk210 (v277 : BitVec 32) : Prop :=
  (∀ a, (k0_off516 v277) a + S1x64.size a ≤ S1000000x64.size a)
instance k0_chk210.dec : ∀ (v277 : BitVec 32), Decidable (k0_chk210 v277) := fun v277 => decidable_of_iff' _ (Iff.of_eq (k0_chk210.eq_1 v277))
theorem k0_off516_inb : ∀ (v277 : BitVec 32) (k0_hw210 : k0_chk210 v277), ∀ a, (k0_off516 v277) a + S1x64.size a ≤ S1000000x64.size a := fun v277 k0_hw210 => k0_hw210

def k0_off517 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_202 : BitVec 32 := 16#32
  let v216 : BitVec 32 := Scalar.muli arg13 c16_i32_202
  let c2_i32_203 : BitVec 32 := 2#32
  let v217 : BitVec 32 := Scalar.addi v216 c2_i32_203
  let c5_i32_232 : BitVec 32 := 5#32
  let v278 : BitVec 32 := Scalar.muli v217 c5_i32_232
  let c4_i32_233 : BitVec 32 := 4#32
  let v279 : BitVec 32 := Scalar.addi v278 c4_i32_233
  let c0_i32_236 : BitVec 32 := 0#32
  ![v279.toNat, 0]
def k0_off518 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_238 : BitVec 32 := 16#32
  let v288 : BitVec 32 := Scalar.muli arg13 c16_i32_238
  let c3_i32_239 : BitVec 32 := 3#32
  let v289 : BitVec 32 := Scalar.addi v288 c3_i32_239
  let c0_i32_240 : BitVec 32 := 0#32
  ![v289.toNat, 0]
def k0_off519 (v291 : BitVec 32) : Fin 2 → Nat :=
  let c0_i32_241 : BitVec 32 := 0#32
  ![v291.toNat, 0]

def k0_chk211 (v291 : BitVec 32) : Prop :=
  (∀ a, (k0_off519 v291) a + S1x64.size a ≤ S1000000x64.size a)
instance k0_chk211.dec : ∀ (v291 : BitVec 32), Decidable (k0_chk211 v291) := fun v291 => decidable_of_iff' _ (Iff.of_eq (k0_chk211.eq_1 v291))
theorem k0_off519_inb : ∀ (v291 : BitVec 32) (k0_hw211 : k0_chk211 v291), ∀ a, (k0_off519 v291) a + S1x64.size a ≤ S1000000x64.size a := fun v291 k0_hw211 => k0_hw211

def k0_off520 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_238 : BitVec 32 := 16#32
  let v288 : BitVec 32 := Scalar.muli arg13 c16_i32_238
  let c3_i32_239 : BitVec 32 := 3#32
  let v289 : BitVec 32 := Scalar.addi v288 c3_i32_239
  let c0_i32_242 : BitVec 32 := 0#32
  ![v289.toNat, 0]
def k0_off521 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_238 : BitVec 32 := 16#32
  let v288 : BitVec 32 := Scalar.muli arg13 c16_i32_238
  let c3_i32_239 : BitVec 32 := 3#32
  let v289 : BitVec 32 := Scalar.addi v288 c3_i32_239
  let c5_i32_244 : BitVec 32 := 5#32
  let v302 : BitVec 32 := Scalar.muli v289 c5_i32_244
  let c0_i32_245 : BitVec 32 := 0#32
  let v303 : BitVec 32 := Scalar.addi v302 c0_i32_245
  let c0_i32_246 : BitVec 32 := 0#32
  ![v303.toNat, 0]
def k0_off522 (v301 : BitVec 32) : Fin 2 → Nat :=
  let c0_i32_247 : BitVec 32 := 0#32
  ![v301.toNat, 0]

def k0_chk212 (v301 : BitVec 32) : Prop :=
  (∀ a, (k0_off522 v301) a + S1x64.size a ≤ S1000000x64.size a)
instance k0_chk212.dec : ∀ (v301 : BitVec 32), Decidable (k0_chk212 v301) := fun v301 => decidable_of_iff' _ (Iff.of_eq (k0_chk212.eq_1 v301))
theorem k0_off522_inb : ∀ (v301 : BitVec 32) (k0_hw212 : k0_chk212 v301), ∀ a, (k0_off522 v301) a + S1x64.size a ≤ S1000000x64.size a := fun v301 k0_hw212 => k0_hw212

def k0_off523 (k0_t7 : Fin k0_t7_loop.trips) (c0_i32_245 : BitVec 32) : Fin 2 → Nat :=
  let c0_i32_29 : BitVec 32 := 0#32
  let c1_i32_31 : BitVec 32 := 1#32
  let arg13 : BitVec 32 := Scf.iv c0_i32_29 c1_i32_31 k0_t7
  let c16_i32_238 : BitVec 32 := 16#32
  let v288 : BitVec 32 := Scalar.muli arg13 c16_i32_238
  let c3_i32_239 : BitVec 32 := 3#32
  let v289 : BitVec 32 := Scalar.addi v288 c3_i32_239
  let c5_i32_244 : BitVec 32 := 5#32
  let v302 : BitVec 32 := Scalar.muli v289 c5_i32_244
  let v303 : BitVec 32 := Scalar.addi v302 c0_i32_245
  let c0_i32_248 : BitVec 32 := 0#32
  ![v303.toNat, 0]
def k0_off524 (v313 : BitVec 32) : Fin 2 → Nat :=
  let c0_i32_253 : BitVec 32 := 0#32
  ![v313.toNat, 0]

def k0_chk213 (v313 : BitVec 32) : Prop :=
  (∀ a, (k0_off524 v313) a + S1x64.size a ≤ S1000000x64.size a)
instance k0_chk213.dec : ∀ (v313 : BitVec 32), Decidable (k0_chk213 v313) := fun v313 => decidable_of_iff' _ (Iff.of_eq (k0_chk213.eq_1 v313))
theorem k0_off524_inb : ∀ (v313 : BitVec 32) (k0_hw213 : k0_chk213 v313), ∀ a, (k0_off524 v313) a + S1x64.size a ≤ S1000000x64.size a := fun v313 k0_hw213 => k0_hw213

def k0_off525 (k0_t7 : Fin k0_t7_loop.trips) (c1_i32_251 : BitVec 32) : Fin 2 → Nat :=
  let c0_i32_29 : BitVec 32 := 0#32
  let c1_i32_31 : BitVec 32 := 1#32
  let arg13 : BitVec 32 := Scf.iv c0_i32_29 c1_i32_31 k0_t7
  let c16_i32_238 : BitVec 32 := 16#32
  let v288 : BitVec 32 := Scalar.muli arg13 c16_i32_238
  let c3_i32_239 : BitVec 32 := 3#32
  let v289 : BitVec 32 := Scalar.addi v288 c3_i32_239
  let c5_i32_250 : BitVec 32 := 5#32
  let v314 : BitVec 32 := Scalar.muli v289 c5_i32_250
  let v315 : BitVec 32 := Scalar.addi v314 c1_i32_251
  let c0_i32_254 : BitVec 32 := 0#32
  ![v315.toNat, 0]
def k0_off526 (v325 : BitVec 32) : Fin 2 → Nat :=
  let c0_i32_259 : BitVec 32 := 0#32
  ![v325.toNat, 0]

def k0_chk214 (v325 : BitVec 32) : Prop :=
  (∀ a, (k0_off526 v325) a + S1x64.size a ≤ S1000000x64.size a)
instance k0_chk214.dec : ∀ (v325 : BitVec 32), Decidable (k0_chk214 v325) := fun v325 => decidable_of_iff' _ (Iff.of_eq (k0_chk214.eq_1 v325))
theorem k0_off526_inb : ∀ (v325 : BitVec 32) (k0_hw214 : k0_chk214 v325), ∀ a, (k0_off526 v325) a + S1x64.size a ≤ S1000000x64.size a := fun v325 k0_hw214 => k0_hw214

def k0_off527 (k0_t7 : Fin k0_t7_loop.trips) (c2_i32_257 : BitVec 32) : Fin 2 → Nat :=
  let c0_i32_29 : BitVec 32 := 0#32
  let c1_i32_31 : BitVec 32 := 1#32
  let arg13 : BitVec 32 := Scf.iv c0_i32_29 c1_i32_31 k0_t7
  let c16_i32_238 : BitVec 32 := 16#32
  let v288 : BitVec 32 := Scalar.muli arg13 c16_i32_238
  let c3_i32_239 : BitVec 32 := 3#32
  let v289 : BitVec 32 := Scalar.addi v288 c3_i32_239
  let c5_i32_256 : BitVec 32 := 5#32
  let v326 : BitVec 32 := Scalar.muli v289 c5_i32_256
  let v327 : BitVec 32 := Scalar.addi v326 c2_i32_257
  let c0_i32_260 : BitVec 32 := 0#32
  ![v327.toNat, 0]
def k0_off528 (v337 : BitVec 32) : Fin 2 → Nat :=
  let c0_i32_265 : BitVec 32 := 0#32
  ![v337.toNat, 0]

def k0_chk215 (v337 : BitVec 32) : Prop :=
  (∀ a, (k0_off528 v337) a + S1x64.size a ≤ S1000000x64.size a)
instance k0_chk215.dec : ∀ (v337 : BitVec 32), Decidable (k0_chk215 v337) := fun v337 => decidable_of_iff' _ (Iff.of_eq (k0_chk215.eq_1 v337))
theorem k0_off528_inb : ∀ (v337 : BitVec 32) (k0_hw215 : k0_chk215 v337), ∀ a, (k0_off528 v337) a + S1x64.size a ≤ S1000000x64.size a := fun v337 k0_hw215 => k0_hw215

def k0_off529 (k0_t7 : Fin k0_t7_loop.trips) (c3_i32_263 : BitVec 32) : Fin 2 → Nat :=
  let c0_i32_29 : BitVec 32 := 0#32
  let c1_i32_31 : BitVec 32 := 1#32
  let arg13 : BitVec 32 := Scf.iv c0_i32_29 c1_i32_31 k0_t7
  let c16_i32_238 : BitVec 32 := 16#32
  let v288 : BitVec 32 := Scalar.muli arg13 c16_i32_238
  let c3_i32_239 : BitVec 32 := 3#32
  let v289 : BitVec 32 := Scalar.addi v288 c3_i32_239
  let c5_i32_262 : BitVec 32 := 5#32
  let v338 : BitVec 32 := Scalar.muli v289 c5_i32_262
  let v339 : BitVec 32 := Scalar.addi v338 c3_i32_263
  let c0_i32_266 : BitVec 32 := 0#32
  ![v339.toNat, 0]
def k0_off530 (v349 : BitVec 32) : Fin 2 → Nat :=
  let c0_i32_271 : BitVec 32 := 0#32
  ![v349.toNat, 0]

def k0_chk216 (v349 : BitVec 32) : Prop :=
  (∀ a, (k0_off530 v349) a + S1x64.size a ≤ S1000000x64.size a)
instance k0_chk216.dec : ∀ (v349 : BitVec 32), Decidable (k0_chk216 v349) := fun v349 => decidable_of_iff' _ (Iff.of_eq (k0_chk216.eq_1 v349))
theorem k0_off530_inb : ∀ (v349 : BitVec 32) (k0_hw216 : k0_chk216 v349), ∀ a, (k0_off530 v349) a + S1x64.size a ≤ S1000000x64.size a := fun v349 k0_hw216 => k0_hw216

def k0_off531 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_238 : BitVec 32 := 16#32
  let v288 : BitVec 32 := Scalar.muli arg13 c16_i32_238
  let c3_i32_239 : BitVec 32 := 3#32
  let v289 : BitVec 32 := Scalar.addi v288 c3_i32_239
  let c5_i32_268 : BitVec 32 := 5#32
  let v350 : BitVec 32 := Scalar.muli v289 c5_i32_268
  let c4_i32_269 : BitVec 32 := 4#32
  let v351 : BitVec 32 := Scalar.addi v350 c4_i32_269
  let c0_i32_272 : BitVec 32 := 0#32
  ![v351.toNat, 0]
def k0_off532 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_274 : BitVec 32 := 16#32
  let v360 : BitVec 32 := Scalar.muli arg13 c16_i32_274
  let c4_i32_275 : BitVec 32 := 4#32
  let v361 : BitVec 32 := Scalar.addi v360 c4_i32_275
  let c0_i32_276 : BitVec 32 := 0#32
  ![v361.toNat, 0]
def k0_off533 (v363 : BitVec 32) : Fin 2 → Nat :=
  let c0_i32_277 : BitVec 32 := 0#32
  ![v363.toNat, 0]

def k0_chk217 (v363 : BitVec 32) : Prop :=
  (∀ a, (k0_off533 v363) a + S1x64.size a ≤ S1000000x64.size a)
instance k0_chk217.dec : ∀ (v363 : BitVec 32), Decidable (k0_chk217 v363) := fun v363 => decidable_of_iff' _ (Iff.of_eq (k0_chk217.eq_1 v363))
theorem k0_off533_inb : ∀ (v363 : BitVec 32) (k0_hw217 : k0_chk217 v363), ∀ a, (k0_off533 v363) a + S1x64.size a ≤ S1000000x64.size a := fun v363 k0_hw217 => k0_hw217

def k0_off534 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_274 : BitVec 32 := 16#32
  let v360 : BitVec 32 := Scalar.muli arg13 c16_i32_274
  let c4_i32_275 : BitVec 32 := 4#32
  let v361 : BitVec 32 := Scalar.addi v360 c4_i32_275
  let c0_i32_278 : BitVec 32 := 0#32
  ![v361.toNat, 0]
def k0_off535 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_274 : BitVec 32 := 16#32
  let v360 : BitVec 32 := Scalar.muli arg13 c16_i32_274
  let c4_i32_275 : BitVec 32 := 4#32
  let v361 : BitVec 32 := Scalar.addi v360 c4_i32_275
  let c5_i32_280 : BitVec 32 := 5#32
  let v374 : BitVec 32 := Scalar.muli v361 c5_i32_280
  let c0_i32_281 : BitVec 32 := 0#32
  let v375 : BitVec 32 := Scalar.addi v374 c0_i32_281
  let c0_i32_282 : BitVec 32 := 0#32
  ![v375.toNat, 0]
def k0_off536 (v373 : BitVec 32) : Fin 2 → Nat :=
  let c0_i32_283 : BitVec 32 := 0#32
  ![v373.toNat, 0]

def k0_chk218 (v373 : BitVec 32) : Prop :=
  (∀ a, (k0_off536 v373) a + S1x64.size a ≤ S1000000x64.size a)
instance k0_chk218.dec : ∀ (v373 : BitVec 32), Decidable (k0_chk218 v373) := fun v373 => decidable_of_iff' _ (Iff.of_eq (k0_chk218.eq_1 v373))
theorem k0_off536_inb : ∀ (v373 : BitVec 32) (k0_hw218 : k0_chk218 v373), ∀ a, (k0_off536 v373) a + S1x64.size a ≤ S1000000x64.size a := fun v373 k0_hw218 => k0_hw218

def k0_off537 (k0_t7 : Fin k0_t7_loop.trips) (c0_i32_281 : BitVec 32) : Fin 2 → Nat :=
  let c0_i32_29 : BitVec 32 := 0#32
  let c1_i32_31 : BitVec 32 := 1#32
  let arg13 : BitVec 32 := Scf.iv c0_i32_29 c1_i32_31 k0_t7
  let c16_i32_274 : BitVec 32 := 16#32
  let v360 : BitVec 32 := Scalar.muli arg13 c16_i32_274
  let c4_i32_275 : BitVec 32 := 4#32
  let v361 : BitVec 32 := Scalar.addi v360 c4_i32_275
  let c5_i32_280 : BitVec 32 := 5#32
  let v374 : BitVec 32 := Scalar.muli v361 c5_i32_280
  let v375 : BitVec 32 := Scalar.addi v374 c0_i32_281
  let c0_i32_284 : BitVec 32 := 0#32
  ![v375.toNat, 0]
def k0_off538 (v385 : BitVec 32) : Fin 2 → Nat :=
  let c0_i32_289 : BitVec 32 := 0#32
  ![v385.toNat, 0]

def k0_chk219 (v385 : BitVec 32) : Prop :=
  (∀ a, (k0_off538 v385) a + S1x64.size a ≤ S1000000x64.size a)
instance k0_chk219.dec : ∀ (v385 : BitVec 32), Decidable (k0_chk219 v385) := fun v385 => decidable_of_iff' _ (Iff.of_eq (k0_chk219.eq_1 v385))
theorem k0_off538_inb : ∀ (v385 : BitVec 32) (k0_hw219 : k0_chk219 v385), ∀ a, (k0_off538 v385) a + S1x64.size a ≤ S1000000x64.size a := fun v385 k0_hw219 => k0_hw219

def k0_off539 (k0_t7 : Fin k0_t7_loop.trips) (c1_i32_287 : BitVec 32) : Fin 2 → Nat :=
  let c0_i32_29 : BitVec 32 := 0#32
  let c1_i32_31 : BitVec 32 := 1#32
  let arg13 : BitVec 32 := Scf.iv c0_i32_29 c1_i32_31 k0_t7
  let c16_i32_274 : BitVec 32 := 16#32
  let v360 : BitVec 32 := Scalar.muli arg13 c16_i32_274
  let c4_i32_275 : BitVec 32 := 4#32
  let v361 : BitVec 32 := Scalar.addi v360 c4_i32_275
  let c5_i32_286 : BitVec 32 := 5#32
  let v386 : BitVec 32 := Scalar.muli v361 c5_i32_286
  let v387 : BitVec 32 := Scalar.addi v386 c1_i32_287
  let c0_i32_290 : BitVec 32 := 0#32
  ![v387.toNat, 0]
def k0_off540 (v397 : BitVec 32) : Fin 2 → Nat :=
  let c0_i32_295 : BitVec 32 := 0#32
  ![v397.toNat, 0]

def k0_chk220 (v397 : BitVec 32) : Prop :=
  (∀ a, (k0_off540 v397) a + S1x64.size a ≤ S1000000x64.size a)
instance k0_chk220.dec : ∀ (v397 : BitVec 32), Decidable (k0_chk220 v397) := fun v397 => decidable_of_iff' _ (Iff.of_eq (k0_chk220.eq_1 v397))
theorem k0_off540_inb : ∀ (v397 : BitVec 32) (k0_hw220 : k0_chk220 v397), ∀ a, (k0_off540 v397) a + S1x64.size a ≤ S1000000x64.size a := fun v397 k0_hw220 => k0_hw220

def k0_off541 (k0_t7 : Fin k0_t7_loop.trips) (c2_i32_293 : BitVec 32) : Fin 2 → Nat :=
  let c0_i32_29 : BitVec 32 := 0#32
  let c1_i32_31 : BitVec 32 := 1#32
  let arg13 : BitVec 32 := Scf.iv c0_i32_29 c1_i32_31 k0_t7
  let c16_i32_274 : BitVec 32 := 16#32
  let v360 : BitVec 32 := Scalar.muli arg13 c16_i32_274
  let c4_i32_275 : BitVec 32 := 4#32
  let v361 : BitVec 32 := Scalar.addi v360 c4_i32_275
  let c5_i32_292 : BitVec 32 := 5#32
  let v398 : BitVec 32 := Scalar.muli v361 c5_i32_292
  let v399 : BitVec 32 := Scalar.addi v398 c2_i32_293
  let c0_i32_296 : BitVec 32 := 0#32
  ![v399.toNat, 0]
def k0_off542 (v409 : BitVec 32) : Fin 2 → Nat :=
  let c0_i32_301 : BitVec 32 := 0#32
  ![v409.toNat, 0]

def k0_chk221 (v409 : BitVec 32) : Prop :=
  (∀ a, (k0_off542 v409) a + S1x64.size a ≤ S1000000x64.size a)
instance k0_chk221.dec : ∀ (v409 : BitVec 32), Decidable (k0_chk221 v409) := fun v409 => decidable_of_iff' _ (Iff.of_eq (k0_chk221.eq_1 v409))
theorem k0_off542_inb : ∀ (v409 : BitVec 32) (k0_hw221 : k0_chk221 v409), ∀ a, (k0_off542 v409) a + S1x64.size a ≤ S1000000x64.size a := fun v409 k0_hw221 => k0_hw221

def k0_off543 (k0_t7 : Fin k0_t7_loop.trips) (c3_i32_299 : BitVec 32) : Fin 2 → Nat :=
  let c0_i32_29 : BitVec 32 := 0#32
  let c1_i32_31 : BitVec 32 := 1#32
  let arg13 : BitVec 32 := Scf.iv c0_i32_29 c1_i32_31 k0_t7
  let c16_i32_274 : BitVec 32 := 16#32
  let v360 : BitVec 32 := Scalar.muli arg13 c16_i32_274
  let c4_i32_275 : BitVec 32 := 4#32
  let v361 : BitVec 32 := Scalar.addi v360 c4_i32_275
  let c5_i32_298 : BitVec 32 := 5#32
  let v410 : BitVec 32 := Scalar.muli v361 c5_i32_298
  let v411 : BitVec 32 := Scalar.addi v410 c3_i32_299
  let c0_i32_302 : BitVec 32 := 0#32
  ![v411.toNat, 0]
def k0_off544 (v421 : BitVec 32) : Fin 2 → Nat :=
  let c0_i32_307 : BitVec 32 := 0#32
  ![v421.toNat, 0]

def k0_chk222 (v421 : BitVec 32) : Prop :=
  (∀ a, (k0_off544 v421) a + S1x64.size a ≤ S1000000x64.size a)
instance k0_chk222.dec : ∀ (v421 : BitVec 32), Decidable (k0_chk222 v421) := fun v421 => decidable_of_iff' _ (Iff.of_eq (k0_chk222.eq_1 v421))
theorem k0_off544_inb : ∀ (v421 : BitVec 32) (k0_hw222 : k0_chk222 v421), ∀ a, (k0_off544 v421) a + S1x64.size a ≤ S1000000x64.size a := fun v421 k0_hw222 => k0_hw222

def k0_off545 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_274 : BitVec 32 := 16#32
  let v360 : BitVec 32 := Scalar.muli arg13 c16_i32_274
  let c4_i32_275 : BitVec 32 := 4#32
  let v361 : BitVec 32 := Scalar.addi v360 c4_i32_275
  let c5_i32_304 : BitVec 32 := 5#32
  let v422 : BitVec 32 := Scalar.muli v361 c5_i32_304
  let c4_i32_305 : BitVec 32 := 4#32
  let v423 : BitVec 32 := Scalar.addi v422 c4_i32_305
  let c0_i32_308 : BitVec 32 := 0#32
  ![v423.toNat, 0]
def k0_off546 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_310 : BitVec 32 := 16#32
  let v432 : BitVec 32 := Scalar.muli arg13 c16_i32_310
  let c5_i32_311 : BitVec 32 := 5#32
  let v433 : BitVec 32 := Scalar.addi v432 c5_i32_311
  let c0_i32_312 : BitVec 32 := 0#32
  ![v433.toNat, 0]
def k0_off547 (v435 : BitVec 32) : Fin 2 → Nat :=
  let c0_i32_313 : BitVec 32 := 0#32
  ![v435.toNat, 0]

def k0_chk223 (v435 : BitVec 32) : Prop :=
  (∀ a, (k0_off547 v435) a + S1x64.size a ≤ S1000000x64.size a)
instance k0_chk223.dec : ∀ (v435 : BitVec 32), Decidable (k0_chk223 v435) := fun v435 => decidable_of_iff' _ (Iff.of_eq (k0_chk223.eq_1 v435))
theorem k0_off547_inb : ∀ (v435 : BitVec 32) (k0_hw223 : k0_chk223 v435), ∀ a, (k0_off547 v435) a + S1x64.size a ≤ S1000000x64.size a := fun v435 k0_hw223 => k0_hw223

def k0_off548 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_310 : BitVec 32 := 16#32
  let v432 : BitVec 32 := Scalar.muli arg13 c16_i32_310
  let c5_i32_311 : BitVec 32 := 5#32
  let v433 : BitVec 32 := Scalar.addi v432 c5_i32_311
  let c0_i32_314 : BitVec 32 := 0#32
  ![v433.toNat, 0]
def k0_off549 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_310 : BitVec 32 := 16#32
  let v432 : BitVec 32 := Scalar.muli arg13 c16_i32_310
  let c5_i32_311 : BitVec 32 := 5#32
  let v433 : BitVec 32 := Scalar.addi v432 c5_i32_311
  let c5_i32_316 : BitVec 32 := 5#32
  let v446 : BitVec 32 := Scalar.muli v433 c5_i32_316
  let c0_i32_317 : BitVec 32 := 0#32
  let v447 : BitVec 32 := Scalar.addi v446 c0_i32_317
  let c0_i32_318 : BitVec 32 := 0#32
  ![v447.toNat, 0]
def k0_off550 (v445 : BitVec 32) : Fin 2 → Nat :=
  let c0_i32_319 : BitVec 32 := 0#32
  ![v445.toNat, 0]

def k0_chk224 (v445 : BitVec 32) : Prop :=
  (∀ a, (k0_off550 v445) a + S1x64.size a ≤ S1000000x64.size a)
instance k0_chk224.dec : ∀ (v445 : BitVec 32), Decidable (k0_chk224 v445) := fun v445 => decidable_of_iff' _ (Iff.of_eq (k0_chk224.eq_1 v445))
theorem k0_off550_inb : ∀ (v445 : BitVec 32) (k0_hw224 : k0_chk224 v445), ∀ a, (k0_off550 v445) a + S1x64.size a ≤ S1000000x64.size a := fun v445 k0_hw224 => k0_hw224

def k0_off551 (k0_t7 : Fin k0_t7_loop.trips) (c0_i32_317 : BitVec 32) : Fin 2 → Nat :=
  let c0_i32_29 : BitVec 32 := 0#32
  let c1_i32_31 : BitVec 32 := 1#32
  let arg13 : BitVec 32 := Scf.iv c0_i32_29 c1_i32_31 k0_t7
  let c16_i32_310 : BitVec 32 := 16#32
  let v432 : BitVec 32 := Scalar.muli arg13 c16_i32_310
  let c5_i32_311 : BitVec 32 := 5#32
  let v433 : BitVec 32 := Scalar.addi v432 c5_i32_311
  let c5_i32_316 : BitVec 32 := 5#32
  let v446 : BitVec 32 := Scalar.muli v433 c5_i32_316
  let v447 : BitVec 32 := Scalar.addi v446 c0_i32_317
  let c0_i32_320 : BitVec 32 := 0#32
  ![v447.toNat, 0]
def k0_off552 (v457 : BitVec 32) : Fin 2 → Nat :=
  let c0_i32_325 : BitVec 32 := 0#32
  ![v457.toNat, 0]

def k0_chk225 (v457 : BitVec 32) : Prop :=
  (∀ a, (k0_off552 v457) a + S1x64.size a ≤ S1000000x64.size a)
instance k0_chk225.dec : ∀ (v457 : BitVec 32), Decidable (k0_chk225 v457) := fun v457 => decidable_of_iff' _ (Iff.of_eq (k0_chk225.eq_1 v457))
theorem k0_off552_inb : ∀ (v457 : BitVec 32) (k0_hw225 : k0_chk225 v457), ∀ a, (k0_off552 v457) a + S1x64.size a ≤ S1000000x64.size a := fun v457 k0_hw225 => k0_hw225

def k0_off553 (k0_t7 : Fin k0_t7_loop.trips) (c1_i32_323 : BitVec 32) : Fin 2 → Nat :=
  let c0_i32_29 : BitVec 32 := 0#32
  let c1_i32_31 : BitVec 32 := 1#32
  let arg13 : BitVec 32 := Scf.iv c0_i32_29 c1_i32_31 k0_t7
  let c16_i32_310 : BitVec 32 := 16#32
  let v432 : BitVec 32 := Scalar.muli arg13 c16_i32_310
  let c5_i32_311 : BitVec 32 := 5#32
  let v433 : BitVec 32 := Scalar.addi v432 c5_i32_311
  let c5_i32_322 : BitVec 32 := 5#32
  let v458 : BitVec 32 := Scalar.muli v433 c5_i32_322
  let v459 : BitVec 32 := Scalar.addi v458 c1_i32_323
  let c0_i32_326 : BitVec 32 := 0#32
  ![v459.toNat, 0]
def k0_off554 (v469 : BitVec 32) : Fin 2 → Nat :=
  let c0_i32_331 : BitVec 32 := 0#32
  ![v469.toNat, 0]

def k0_chk226 (v469 : BitVec 32) : Prop :=
  (∀ a, (k0_off554 v469) a + S1x64.size a ≤ S1000000x64.size a)
instance k0_chk226.dec : ∀ (v469 : BitVec 32), Decidable (k0_chk226 v469) := fun v469 => decidable_of_iff' _ (Iff.of_eq (k0_chk226.eq_1 v469))
theorem k0_off554_inb : ∀ (v469 : BitVec 32) (k0_hw226 : k0_chk226 v469), ∀ a, (k0_off554 v469) a + S1x64.size a ≤ S1000000x64.size a := fun v469 k0_hw226 => k0_hw226

def k0_off555 (k0_t7 : Fin k0_t7_loop.trips) (c2_i32_329 : BitVec 32) : Fin 2 → Nat :=
  let c0_i32_29 : BitVec 32 := 0#32
  let c1_i32_31 : BitVec 32 := 1#32
  let arg13 : BitVec 32 := Scf.iv c0_i32_29 c1_i32_31 k0_t7
  let c16_i32_310 : BitVec 32 := 16#32
  let v432 : BitVec 32 := Scalar.muli arg13 c16_i32_310
  let c5_i32_311 : BitVec 32 := 5#32
  let v433 : BitVec 32 := Scalar.addi v432 c5_i32_311
  let c5_i32_328 : BitVec 32 := 5#32
  let v470 : BitVec 32 := Scalar.muli v433 c5_i32_328
  let v471 : BitVec 32 := Scalar.addi v470 c2_i32_329
  let c0_i32_332 : BitVec 32 := 0#32
  ![v471.toNat, 0]
def k0_off556 (v481 : BitVec 32) : Fin 2 → Nat :=
  let c0_i32_337 : BitVec 32 := 0#32
  ![v481.toNat, 0]

def k0_chk227 (v481 : BitVec 32) : Prop :=
  (∀ a, (k0_off556 v481) a + S1x64.size a ≤ S1000000x64.size a)
instance k0_chk227.dec : ∀ (v481 : BitVec 32), Decidable (k0_chk227 v481) := fun v481 => decidable_of_iff' _ (Iff.of_eq (k0_chk227.eq_1 v481))
theorem k0_off556_inb : ∀ (v481 : BitVec 32) (k0_hw227 : k0_chk227 v481), ∀ a, (k0_off556 v481) a + S1x64.size a ≤ S1000000x64.size a := fun v481 k0_hw227 => k0_hw227

def k0_off557 (k0_t7 : Fin k0_t7_loop.trips) (c3_i32_335 : BitVec 32) : Fin 2 → Nat :=
  let c0_i32_29 : BitVec 32 := 0#32
  let c1_i32_31 : BitVec 32 := 1#32
  let arg13 : BitVec 32 := Scf.iv c0_i32_29 c1_i32_31 k0_t7
  let c16_i32_310 : BitVec 32 := 16#32
  let v432 : BitVec 32 := Scalar.muli arg13 c16_i32_310
  let c5_i32_311 : BitVec 32 := 5#32
  let v433 : BitVec 32 := Scalar.addi v432 c5_i32_311
  let c5_i32_334 : BitVec 32 := 5#32
  let v482 : BitVec 32 := Scalar.muli v433 c5_i32_334
  let v483 : BitVec 32 := Scalar.addi v482 c3_i32_335
  let c0_i32_338 : BitVec 32 := 0#32
  ![v483.toNat, 0]
def k0_off558 (v493 : BitVec 32) : Fin 2 → Nat :=
  let c0_i32_343 : BitVec 32 := 0#32
  ![v493.toNat, 0]

def k0_chk228 (v493 : BitVec 32) : Prop :=
  (∀ a, (k0_off558 v493) a + S1x64.size a ≤ S1000000x64.size a)
instance k0_chk228.dec : ∀ (v493 : BitVec 32), Decidable (k0_chk228 v493) := fun v493 => decidable_of_iff' _ (Iff.of_eq (k0_chk228.eq_1 v493))
theorem k0_off558_inb : ∀ (v493 : BitVec 32) (k0_hw228 : k0_chk228 v493), ∀ a, (k0_off558 v493) a + S1x64.size a ≤ S1000000x64.size a := fun v493 k0_hw228 => k0_hw228

def k0_off559 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_310 : BitVec 32 := 16#32
  let v432 : BitVec 32 := Scalar.muli arg13 c16_i32_310
  let c5_i32_311 : BitVec 32 := 5#32
  let v433 : BitVec 32 := Scalar.addi v432 c5_i32_311
  let c5_i32_340 : BitVec 32 := 5#32
  let v494 : BitVec 32 := Scalar.muli v433 c5_i32_340
  let c4_i32_341 : BitVec 32 := 4#32
  let v495 : BitVec 32 := Scalar.addi v494 c4_i32_341
  let c0_i32_344 : BitVec 32 := 0#32
  ![v495.toNat, 0]
def k0_off560 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_346 : BitVec 32 := 16#32
  let v504 : BitVec 32 := Scalar.muli arg13 c16_i32_346
  let c6_i32 : BitVec 32 := 6#32
  let v505 : BitVec 32 := Scalar.addi v504 c6_i32
  let c0_i32_347 : BitVec 32 := 0#32
  ![v505.toNat, 0]
def k0_off561 (v507 : BitVec 32) : Fin 2 → Nat :=
  let c0_i32_348 : BitVec 32 := 0#32
  ![v507.toNat, 0]

def k0_chk229 (v507 : BitVec 32) : Prop :=
  (∀ a, (k0_off561 v507) a + S1x64.size a ≤ S1000000x64.size a)
instance k0_chk229.dec : ∀ (v507 : BitVec 32), Decidable (k0_chk229 v507) := fun v507 => decidable_of_iff' _ (Iff.of_eq (k0_chk229.eq_1 v507))
theorem k0_off561_inb : ∀ (v507 : BitVec 32) (k0_hw229 : k0_chk229 v507), ∀ a, (k0_off561 v507) a + S1x64.size a ≤ S1000000x64.size a := fun v507 k0_hw229 => k0_hw229

def k0_off562 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_346 : BitVec 32 := 16#32
  let v504 : BitVec 32 := Scalar.muli arg13 c16_i32_346
  let c6_i32 : BitVec 32 := 6#32
  let v505 : BitVec 32 := Scalar.addi v504 c6_i32
  let c0_i32_349 : BitVec 32 := 0#32
  ![v505.toNat, 0]
def k0_off563 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_346 : BitVec 32 := 16#32
  let v504 : BitVec 32 := Scalar.muli arg13 c16_i32_346
  let c6_i32 : BitVec 32 := 6#32
  let v505 : BitVec 32 := Scalar.addi v504 c6_i32
  let c5_i32_351 : BitVec 32 := 5#32
  let v518 : BitVec 32 := Scalar.muli v505 c5_i32_351
  let c0_i32_352 : BitVec 32 := 0#32
  let v519 : BitVec 32 := Scalar.addi v518 c0_i32_352
  let c0_i32_353 : BitVec 32 := 0#32
  ![v519.toNat, 0]
def k0_off564 (v517 : BitVec 32) : Fin 2 → Nat :=
  let c0_i32_354 : BitVec 32 := 0#32
  ![v517.toNat, 0]

def k0_chk230 (v517 : BitVec 32) : Prop :=
  (∀ a, (k0_off564 v517) a + S1x64.size a ≤ S1000000x64.size a)
instance k0_chk230.dec : ∀ (v517 : BitVec 32), Decidable (k0_chk230 v517) := fun v517 => decidable_of_iff' _ (Iff.of_eq (k0_chk230.eq_1 v517))
theorem k0_off564_inb : ∀ (v517 : BitVec 32) (k0_hw230 : k0_chk230 v517), ∀ a, (k0_off564 v517) a + S1x64.size a ≤ S1000000x64.size a := fun v517 k0_hw230 => k0_hw230

def k0_off565 (k0_t7 : Fin k0_t7_loop.trips) (c0_i32_352 : BitVec 32) : Fin 2 → Nat :=
  let c0_i32_29 : BitVec 32 := 0#32
  let c1_i32_31 : BitVec 32 := 1#32
  let arg13 : BitVec 32 := Scf.iv c0_i32_29 c1_i32_31 k0_t7
  let c16_i32_346 : BitVec 32 := 16#32
  let v504 : BitVec 32 := Scalar.muli arg13 c16_i32_346
  let c6_i32 : BitVec 32 := 6#32
  let v505 : BitVec 32 := Scalar.addi v504 c6_i32
  let c5_i32_351 : BitVec 32 := 5#32
  let v518 : BitVec 32 := Scalar.muli v505 c5_i32_351
  let v519 : BitVec 32 := Scalar.addi v518 c0_i32_352
  let c0_i32_355 : BitVec 32 := 0#32
  ![v519.toNat, 0]
def k0_off566 (v529 : BitVec 32) : Fin 2 → Nat :=
  let c0_i32_360 : BitVec 32 := 0#32
  ![v529.toNat, 0]

def k0_chk231 (v529 : BitVec 32) : Prop :=
  (∀ a, (k0_off566 v529) a + S1x64.size a ≤ S1000000x64.size a)
instance k0_chk231.dec : ∀ (v529 : BitVec 32), Decidable (k0_chk231 v529) := fun v529 => decidable_of_iff' _ (Iff.of_eq (k0_chk231.eq_1 v529))
theorem k0_off566_inb : ∀ (v529 : BitVec 32) (k0_hw231 : k0_chk231 v529), ∀ a, (k0_off566 v529) a + S1x64.size a ≤ S1000000x64.size a := fun v529 k0_hw231 => k0_hw231

def k0_off567 (k0_t7 : Fin k0_t7_loop.trips) (c1_i32_358 : BitVec 32) : Fin 2 → Nat :=
  let c0_i32_29 : BitVec 32 := 0#32
  let c1_i32_31 : BitVec 32 := 1#32
  let arg13 : BitVec 32 := Scf.iv c0_i32_29 c1_i32_31 k0_t7
  let c16_i32_346 : BitVec 32 := 16#32
  let v504 : BitVec 32 := Scalar.muli arg13 c16_i32_346
  let c6_i32 : BitVec 32 := 6#32
  let v505 : BitVec 32 := Scalar.addi v504 c6_i32
  let c5_i32_357 : BitVec 32 := 5#32
  let v530 : BitVec 32 := Scalar.muli v505 c5_i32_357
  let v531 : BitVec 32 := Scalar.addi v530 c1_i32_358
  let c0_i32_361 : BitVec 32 := 0#32
  ![v531.toNat, 0]
def k0_off568 (v541 : BitVec 32) : Fin 2 → Nat :=
  let c0_i32_366 : BitVec 32 := 0#32
  ![v541.toNat, 0]

def k0_chk232 (v541 : BitVec 32) : Prop :=
  (∀ a, (k0_off568 v541) a + S1x64.size a ≤ S1000000x64.size a)
instance k0_chk232.dec : ∀ (v541 : BitVec 32), Decidable (k0_chk232 v541) := fun v541 => decidable_of_iff' _ (Iff.of_eq (k0_chk232.eq_1 v541))
theorem k0_off568_inb : ∀ (v541 : BitVec 32) (k0_hw232 : k0_chk232 v541), ∀ a, (k0_off568 v541) a + S1x64.size a ≤ S1000000x64.size a := fun v541 k0_hw232 => k0_hw232

def k0_off569 (k0_t7 : Fin k0_t7_loop.trips) (c2_i32_364 : BitVec 32) : Fin 2 → Nat :=
  let c0_i32_29 : BitVec 32 := 0#32
  let c1_i32_31 : BitVec 32 := 1#32
  let arg13 : BitVec 32 := Scf.iv c0_i32_29 c1_i32_31 k0_t7
  let c16_i32_346 : BitVec 32 := 16#32
  let v504 : BitVec 32 := Scalar.muli arg13 c16_i32_346
  let c6_i32 : BitVec 32 := 6#32
  let v505 : BitVec 32 := Scalar.addi v504 c6_i32
  let c5_i32_363 : BitVec 32 := 5#32
  let v542 : BitVec 32 := Scalar.muli v505 c5_i32_363
  let v543 : BitVec 32 := Scalar.addi v542 c2_i32_364
  let c0_i32_367 : BitVec 32 := 0#32
  ![v543.toNat, 0]
def k0_off570 (v553 : BitVec 32) : Fin 2 → Nat :=
  let c0_i32_372 : BitVec 32 := 0#32
  ![v553.toNat, 0]

def k0_chk233 (v553 : BitVec 32) : Prop :=
  (∀ a, (k0_off570 v553) a + S1x64.size a ≤ S1000000x64.size a)
instance k0_chk233.dec : ∀ (v553 : BitVec 32), Decidable (k0_chk233 v553) := fun v553 => decidable_of_iff' _ (Iff.of_eq (k0_chk233.eq_1 v553))
theorem k0_off570_inb : ∀ (v553 : BitVec 32) (k0_hw233 : k0_chk233 v553), ∀ a, (k0_off570 v553) a + S1x64.size a ≤ S1000000x64.size a := fun v553 k0_hw233 => k0_hw233

def k0_off571 (k0_t7 : Fin k0_t7_loop.trips) (c3_i32_370 : BitVec 32) : Fin 2 → Nat :=
  let c0_i32_29 : BitVec 32 := 0#32
  let c1_i32_31 : BitVec 32 := 1#32
  let arg13 : BitVec 32 := Scf.iv c0_i32_29 c1_i32_31 k0_t7
  let c16_i32_346 : BitVec 32 := 16#32
  let v504 : BitVec 32 := Scalar.muli arg13 c16_i32_346
  let c6_i32 : BitVec 32 := 6#32
  let v505 : BitVec 32 := Scalar.addi v504 c6_i32
  let c5_i32_369 : BitVec 32 := 5#32
  let v554 : BitVec 32 := Scalar.muli v505 c5_i32_369
  let v555 : BitVec 32 := Scalar.addi v554 c3_i32_370
  let c0_i32_373 : BitVec 32 := 0#32
  ![v555.toNat, 0]
def k0_off572 (v565 : BitVec 32) : Fin 2 → Nat :=
  let c0_i32_378 : BitVec 32 := 0#32
  ![v565.toNat, 0]

def k0_chk234 (v565 : BitVec 32) : Prop :=
  (∀ a, (k0_off572 v565) a + S1x64.size a ≤ S1000000x64.size a)
instance k0_chk234.dec : ∀ (v565 : BitVec 32), Decidable (k0_chk234 v565) := fun v565 => decidable_of_iff' _ (Iff.of_eq (k0_chk234.eq_1 v565))
theorem k0_off572_inb : ∀ (v565 : BitVec 32) (k0_hw234 : k0_chk234 v565), ∀ a, (k0_off572 v565) a + S1x64.size a ≤ S1000000x64.size a := fun v565 k0_hw234 => k0_hw234

def k0_off573 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_346 : BitVec 32 := 16#32
  let v504 : BitVec 32 := Scalar.muli arg13 c16_i32_346
  let c6_i32 : BitVec 32 := 6#32
  let v505 : BitVec 32 := Scalar.addi v504 c6_i32
  let c5_i32_375 : BitVec 32 := 5#32
  let v566 : BitVec 32 := Scalar.muli v505 c5_i32_375
  let c4_i32_376 : BitVec 32 := 4#32
  let v567 : BitVec 32 := Scalar.addi v566 c4_i32_376
  let c0_i32_379 : BitVec 32 := 0#32
  ![v567.toNat, 0]
def k0_off574 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_381 : BitVec 32 := 16#32
  let v576 : BitVec 32 := Scalar.muli arg13 c16_i32_381
  let c7_i32 : BitVec 32 := 7#32
  let v577 : BitVec 32 := Scalar.addi v576 c7_i32
  let c0_i32_382 : BitVec 32 := 0#32
  ![v577.toNat, 0]
def k0_off575 (v579 : BitVec 32) : Fin 2 → Nat :=
  let c0_i32_383 : BitVec 32 := 0#32
  ![v579.toNat, 0]

def k0_chk235 (v579 : BitVec 32) : Prop :=
  (∀ a, (k0_off575 v579) a + S1x64.size a ≤ S1000000x64.size a)
instance k0_chk235.dec : ∀ (v579 : BitVec 32), Decidable (k0_chk235 v579) := fun v579 => decidable_of_iff' _ (Iff.of_eq (k0_chk235.eq_1 v579))
theorem k0_off575_inb : ∀ (v579 : BitVec 32) (k0_hw235 : k0_chk235 v579), ∀ a, (k0_off575 v579) a + S1x64.size a ≤ S1000000x64.size a := fun v579 k0_hw235 => k0_hw235

def k0_off576 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_381 : BitVec 32 := 16#32
  let v576 : BitVec 32 := Scalar.muli arg13 c16_i32_381
  let c7_i32 : BitVec 32 := 7#32
  let v577 : BitVec 32 := Scalar.addi v576 c7_i32
  let c0_i32_384 : BitVec 32 := 0#32
  ![v577.toNat, 0]
def k0_off577 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_381 : BitVec 32 := 16#32
  let v576 : BitVec 32 := Scalar.muli arg13 c16_i32_381
  let c7_i32 : BitVec 32 := 7#32
  let v577 : BitVec 32 := Scalar.addi v576 c7_i32
  let c5_i32_386 : BitVec 32 := 5#32
  let v590 : BitVec 32 := Scalar.muli v577 c5_i32_386
  let c0_i32_387 : BitVec 32 := 0#32
  let v591 : BitVec 32 := Scalar.addi v590 c0_i32_387
  let c0_i32_388 : BitVec 32 := 0#32
  ![v591.toNat, 0]
def k0_off578 (v589 : BitVec 32) : Fin 2 → Nat :=
  let c0_i32_389 : BitVec 32 := 0#32
  ![v589.toNat, 0]

def k0_chk236 (v589 : BitVec 32) : Prop :=
  (∀ a, (k0_off578 v589) a + S1x64.size a ≤ S1000000x64.size a)
instance k0_chk236.dec : ∀ (v589 : BitVec 32), Decidable (k0_chk236 v589) := fun v589 => decidable_of_iff' _ (Iff.of_eq (k0_chk236.eq_1 v589))
theorem k0_off578_inb : ∀ (v589 : BitVec 32) (k0_hw236 : k0_chk236 v589), ∀ a, (k0_off578 v589) a + S1x64.size a ≤ S1000000x64.size a := fun v589 k0_hw236 => k0_hw236

def k0_off579 (k0_t7 : Fin k0_t7_loop.trips) (c0_i32_387 : BitVec 32) : Fin 2 → Nat :=
  let c0_i32_29 : BitVec 32 := 0#32
  let c1_i32_31 : BitVec 32 := 1#32
  let arg13 : BitVec 32 := Scf.iv c0_i32_29 c1_i32_31 k0_t7
  let c16_i32_381 : BitVec 32 := 16#32
  let v576 : BitVec 32 := Scalar.muli arg13 c16_i32_381
  let c7_i32 : BitVec 32 := 7#32
  let v577 : BitVec 32 := Scalar.addi v576 c7_i32
  let c5_i32_386 : BitVec 32 := 5#32
  let v590 : BitVec 32 := Scalar.muli v577 c5_i32_386
  let v591 : BitVec 32 := Scalar.addi v590 c0_i32_387
  let c0_i32_390 : BitVec 32 := 0#32
  ![v591.toNat, 0]
def k0_off580 (v601 : BitVec 32) : Fin 2 → Nat :=
  let c0_i32_395 : BitVec 32 := 0#32
  ![v601.toNat, 0]

def k0_chk237 (v601 : BitVec 32) : Prop :=
  (∀ a, (k0_off580 v601) a + S1x64.size a ≤ S1000000x64.size a)
instance k0_chk237.dec : ∀ (v601 : BitVec 32), Decidable (k0_chk237 v601) := fun v601 => decidable_of_iff' _ (Iff.of_eq (k0_chk237.eq_1 v601))
theorem k0_off580_inb : ∀ (v601 : BitVec 32) (k0_hw237 : k0_chk237 v601), ∀ a, (k0_off580 v601) a + S1x64.size a ≤ S1000000x64.size a := fun v601 k0_hw237 => k0_hw237

def k0_off581 (k0_t7 : Fin k0_t7_loop.trips) (c1_i32_393 : BitVec 32) : Fin 2 → Nat :=
  let c0_i32_29 : BitVec 32 := 0#32
  let c1_i32_31 : BitVec 32 := 1#32
  let arg13 : BitVec 32 := Scf.iv c0_i32_29 c1_i32_31 k0_t7
  let c16_i32_381 : BitVec 32 := 16#32
  let v576 : BitVec 32 := Scalar.muli arg13 c16_i32_381
  let c7_i32 : BitVec 32 := 7#32
  let v577 : BitVec 32 := Scalar.addi v576 c7_i32
  let c5_i32_392 : BitVec 32 := 5#32
  let v602 : BitVec 32 := Scalar.muli v577 c5_i32_392
  let v603 : BitVec 32 := Scalar.addi v602 c1_i32_393
  let c0_i32_396 : BitVec 32 := 0#32
  ![v603.toNat, 0]
def k0_off582 (v613 : BitVec 32) : Fin 2 → Nat :=
  let c0_i32_401 : BitVec 32 := 0#32
  ![v613.toNat, 0]

def k0_chk238 (v613 : BitVec 32) : Prop :=
  (∀ a, (k0_off582 v613) a + S1x64.size a ≤ S1000000x64.size a)
instance k0_chk238.dec : ∀ (v613 : BitVec 32), Decidable (k0_chk238 v613) := fun v613 => decidable_of_iff' _ (Iff.of_eq (k0_chk238.eq_1 v613))
theorem k0_off582_inb : ∀ (v613 : BitVec 32) (k0_hw238 : k0_chk238 v613), ∀ a, (k0_off582 v613) a + S1x64.size a ≤ S1000000x64.size a := fun v613 k0_hw238 => k0_hw238

def k0_off583 (k0_t7 : Fin k0_t7_loop.trips) (c2_i32_399 : BitVec 32) : Fin 2 → Nat :=
  let c0_i32_29 : BitVec 32 := 0#32
  let c1_i32_31 : BitVec 32 := 1#32
  let arg13 : BitVec 32 := Scf.iv c0_i32_29 c1_i32_31 k0_t7
  let c16_i32_381 : BitVec 32 := 16#32
  let v576 : BitVec 32 := Scalar.muli arg13 c16_i32_381
  let c7_i32 : BitVec 32 := 7#32
  let v577 : BitVec 32 := Scalar.addi v576 c7_i32
  let c5_i32_398 : BitVec 32 := 5#32
  let v614 : BitVec 32 := Scalar.muli v577 c5_i32_398
  let v615 : BitVec 32 := Scalar.addi v614 c2_i32_399
  let c0_i32_402 : BitVec 32 := 0#32
  ![v615.toNat, 0]
def k0_off584 (v625 : BitVec 32) : Fin 2 → Nat :=
  let c0_i32_407 : BitVec 32 := 0#32
  ![v625.toNat, 0]

def k0_chk239 (v625 : BitVec 32) : Prop :=
  (∀ a, (k0_off584 v625) a + S1x64.size a ≤ S1000000x64.size a)
instance k0_chk239.dec : ∀ (v625 : BitVec 32), Decidable (k0_chk239 v625) := fun v625 => decidable_of_iff' _ (Iff.of_eq (k0_chk239.eq_1 v625))
theorem k0_off584_inb : ∀ (v625 : BitVec 32) (k0_hw239 : k0_chk239 v625), ∀ a, (k0_off584 v625) a + S1x64.size a ≤ S1000000x64.size a := fun v625 k0_hw239 => k0_hw239

def k0_off585 (k0_t7 : Fin k0_t7_loop.trips) (c3_i32_405 : BitVec 32) : Fin 2 → Nat :=
  let c0_i32_29 : BitVec 32 := 0#32
  let c1_i32_31 : BitVec 32 := 1#32
  let arg13 : BitVec 32 := Scf.iv c0_i32_29 c1_i32_31 k0_t7
  let c16_i32_381 : BitVec 32 := 16#32
  let v576 : BitVec 32 := Scalar.muli arg13 c16_i32_381
  let c7_i32 : BitVec 32 := 7#32
  let v577 : BitVec 32 := Scalar.addi v576 c7_i32
  let c5_i32_404 : BitVec 32 := 5#32
  let v626 : BitVec 32 := Scalar.muli v577 c5_i32_404
  let v627 : BitVec 32 := Scalar.addi v626 c3_i32_405
  let c0_i32_408 : BitVec 32 := 0#32
  ![v627.toNat, 0]
def k0_off586 (v637 : BitVec 32) : Fin 2 → Nat :=
  let c0_i32_413 : BitVec 32 := 0#32
  ![v637.toNat, 0]

def k0_chk240 (v637 : BitVec 32) : Prop :=
  (∀ a, (k0_off586 v637) a + S1x64.size a ≤ S1000000x64.size a)
instance k0_chk240.dec : ∀ (v637 : BitVec 32), Decidable (k0_chk240 v637) := fun v637 => decidable_of_iff' _ (Iff.of_eq (k0_chk240.eq_1 v637))
theorem k0_off586_inb : ∀ (v637 : BitVec 32) (k0_hw240 : k0_chk240 v637), ∀ a, (k0_off586 v637) a + S1x64.size a ≤ S1000000x64.size a := fun v637 k0_hw240 => k0_hw240

def k0_off587 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_381 : BitVec 32 := 16#32
  let v576 : BitVec 32 := Scalar.muli arg13 c16_i32_381
  let c7_i32 : BitVec 32 := 7#32
  let v577 : BitVec 32 := Scalar.addi v576 c7_i32
  let c5_i32_410 : BitVec 32 := 5#32
  let v638 : BitVec 32 := Scalar.muli v577 c5_i32_410
  let c4_i32_411 : BitVec 32 := 4#32
  let v639 : BitVec 32 := Scalar.addi v638 c4_i32_411
  let c0_i32_414 : BitVec 32 := 0#32
  ![v639.toNat, 0]
def k0_off588 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_416 : BitVec 32 := 16#32
  let v648 : BitVec 32 := Scalar.muli arg13 c16_i32_416
  let c8_i32 : BitVec 32 := 8#32
  let v649 : BitVec 32 := Scalar.addi v648 c8_i32
  let c0_i32_417 : BitVec 32 := 0#32
  ![v649.toNat, 0]
def k0_off589 (v651 : BitVec 32) : Fin 2 → Nat :=
  let c0_i32_418 : BitVec 32 := 0#32
  ![v651.toNat, 0]

def k0_chk241 (v651 : BitVec 32) : Prop :=
  (∀ a, (k0_off589 v651) a + S1x64.size a ≤ S1000000x64.size a)
instance k0_chk241.dec : ∀ (v651 : BitVec 32), Decidable (k0_chk241 v651) := fun v651 => decidable_of_iff' _ (Iff.of_eq (k0_chk241.eq_1 v651))
theorem k0_off589_inb : ∀ (v651 : BitVec 32) (k0_hw241 : k0_chk241 v651), ∀ a, (k0_off589 v651) a + S1x64.size a ≤ S1000000x64.size a := fun v651 k0_hw241 => k0_hw241

def k0_off590 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_416 : BitVec 32 := 16#32
  let v648 : BitVec 32 := Scalar.muli arg13 c16_i32_416
  let c8_i32 : BitVec 32 := 8#32
  let v649 : BitVec 32 := Scalar.addi v648 c8_i32
  let c0_i32_419 : BitVec 32 := 0#32
  ![v649.toNat, 0]
def k0_off591 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_416 : BitVec 32 := 16#32
  let v648 : BitVec 32 := Scalar.muli arg13 c16_i32_416
  let c8_i32 : BitVec 32 := 8#32
  let v649 : BitVec 32 := Scalar.addi v648 c8_i32
  let c5_i32_421 : BitVec 32 := 5#32
  let v662 : BitVec 32 := Scalar.muli v649 c5_i32_421
  let c0_i32_422 : BitVec 32 := 0#32
  let v663 : BitVec 32 := Scalar.addi v662 c0_i32_422
  let c0_i32_423 : BitVec 32 := 0#32
  ![v663.toNat, 0]
def k0_off592 (v661 : BitVec 32) : Fin 2 → Nat :=
  let c0_i32_424 : BitVec 32 := 0#32
  ![v661.toNat, 0]

def k0_chk242 (v661 : BitVec 32) : Prop :=
  (∀ a, (k0_off592 v661) a + S1x64.size a ≤ S1000000x64.size a)
instance k0_chk242.dec : ∀ (v661 : BitVec 32), Decidable (k0_chk242 v661) := fun v661 => decidable_of_iff' _ (Iff.of_eq (k0_chk242.eq_1 v661))
theorem k0_off592_inb : ∀ (v661 : BitVec 32) (k0_hw242 : k0_chk242 v661), ∀ a, (k0_off592 v661) a + S1x64.size a ≤ S1000000x64.size a := fun v661 k0_hw242 => k0_hw242

def k0_off593 (k0_t7 : Fin k0_t7_loop.trips) (c0_i32_422 : BitVec 32) : Fin 2 → Nat :=
  let c0_i32_29 : BitVec 32 := 0#32
  let c1_i32_31 : BitVec 32 := 1#32
  let arg13 : BitVec 32 := Scf.iv c0_i32_29 c1_i32_31 k0_t7
  let c16_i32_416 : BitVec 32 := 16#32
  let v648 : BitVec 32 := Scalar.muli arg13 c16_i32_416
  let c8_i32 : BitVec 32 := 8#32
  let v649 : BitVec 32 := Scalar.addi v648 c8_i32
  let c5_i32_421 : BitVec 32 := 5#32
  let v662 : BitVec 32 := Scalar.muli v649 c5_i32_421
  let v663 : BitVec 32 := Scalar.addi v662 c0_i32_422
  let c0_i32_425 : BitVec 32 := 0#32
  ![v663.toNat, 0]
def k0_off594 (v673 : BitVec 32) : Fin 2 → Nat :=
  let c0_i32_430 : BitVec 32 := 0#32
  ![v673.toNat, 0]

def k0_chk243 (v673 : BitVec 32) : Prop :=
  (∀ a, (k0_off594 v673) a + S1x64.size a ≤ S1000000x64.size a)
instance k0_chk243.dec : ∀ (v673 : BitVec 32), Decidable (k0_chk243 v673) := fun v673 => decidable_of_iff' _ (Iff.of_eq (k0_chk243.eq_1 v673))
theorem k0_off594_inb : ∀ (v673 : BitVec 32) (k0_hw243 : k0_chk243 v673), ∀ a, (k0_off594 v673) a + S1x64.size a ≤ S1000000x64.size a := fun v673 k0_hw243 => k0_hw243

def k0_off595 (k0_t7 : Fin k0_t7_loop.trips) (c1_i32_428 : BitVec 32) : Fin 2 → Nat :=
  let c0_i32_29 : BitVec 32 := 0#32
  let c1_i32_31 : BitVec 32 := 1#32
  let arg13 : BitVec 32 := Scf.iv c0_i32_29 c1_i32_31 k0_t7
  let c16_i32_416 : BitVec 32 := 16#32
  let v648 : BitVec 32 := Scalar.muli arg13 c16_i32_416
  let c8_i32 : BitVec 32 := 8#32
  let v649 : BitVec 32 := Scalar.addi v648 c8_i32
  let c5_i32_427 : BitVec 32 := 5#32
  let v674 : BitVec 32 := Scalar.muli v649 c5_i32_427
  let v675 : BitVec 32 := Scalar.addi v674 c1_i32_428
  let c0_i32_431 : BitVec 32 := 0#32
  ![v675.toNat, 0]
def k0_off596 (v685 : BitVec 32) : Fin 2 → Nat :=
  let c0_i32_436 : BitVec 32 := 0#32
  ![v685.toNat, 0]

def k0_chk244 (v685 : BitVec 32) : Prop :=
  (∀ a, (k0_off596 v685) a + S1x64.size a ≤ S1000000x64.size a)
instance k0_chk244.dec : ∀ (v685 : BitVec 32), Decidable (k0_chk244 v685) := fun v685 => decidable_of_iff' _ (Iff.of_eq (k0_chk244.eq_1 v685))
theorem k0_off596_inb : ∀ (v685 : BitVec 32) (k0_hw244 : k0_chk244 v685), ∀ a, (k0_off596 v685) a + S1x64.size a ≤ S1000000x64.size a := fun v685 k0_hw244 => k0_hw244

def k0_off597 (k0_t7 : Fin k0_t7_loop.trips) (c2_i32_434 : BitVec 32) : Fin 2 → Nat :=
  let c0_i32_29 : BitVec 32 := 0#32
  let c1_i32_31 : BitVec 32 := 1#32
  let arg13 : BitVec 32 := Scf.iv c0_i32_29 c1_i32_31 k0_t7
  let c16_i32_416 : BitVec 32 := 16#32
  let v648 : BitVec 32 := Scalar.muli arg13 c16_i32_416
  let c8_i32 : BitVec 32 := 8#32
  let v649 : BitVec 32 := Scalar.addi v648 c8_i32
  let c5_i32_433 : BitVec 32 := 5#32
  let v686 : BitVec 32 := Scalar.muli v649 c5_i32_433
  let v687 : BitVec 32 := Scalar.addi v686 c2_i32_434
  let c0_i32_437 : BitVec 32 := 0#32
  ![v687.toNat, 0]
def k0_off598 (v697 : BitVec 32) : Fin 2 → Nat :=
  let c0_i32_442 : BitVec 32 := 0#32
  ![v697.toNat, 0]

def k0_chk245 (v697 : BitVec 32) : Prop :=
  (∀ a, (k0_off598 v697) a + S1x64.size a ≤ S1000000x64.size a)
instance k0_chk245.dec : ∀ (v697 : BitVec 32), Decidable (k0_chk245 v697) := fun v697 => decidable_of_iff' _ (Iff.of_eq (k0_chk245.eq_1 v697))
theorem k0_off598_inb : ∀ (v697 : BitVec 32) (k0_hw245 : k0_chk245 v697), ∀ a, (k0_off598 v697) a + S1x64.size a ≤ S1000000x64.size a := fun v697 k0_hw245 => k0_hw245

def k0_off599 (k0_t7 : Fin k0_t7_loop.trips) (c3_i32_440 : BitVec 32) : Fin 2 → Nat :=
  let c0_i32_29 : BitVec 32 := 0#32
  let c1_i32_31 : BitVec 32 := 1#32
  let arg13 : BitVec 32 := Scf.iv c0_i32_29 c1_i32_31 k0_t7
  let c16_i32_416 : BitVec 32 := 16#32
  let v648 : BitVec 32 := Scalar.muli arg13 c16_i32_416
  let c8_i32 : BitVec 32 := 8#32
  let v649 : BitVec 32 := Scalar.addi v648 c8_i32
  let c5_i32_439 : BitVec 32 := 5#32
  let v698 : BitVec 32 := Scalar.muli v649 c5_i32_439
  let v699 : BitVec 32 := Scalar.addi v698 c3_i32_440
  let c0_i32_443 : BitVec 32 := 0#32
  ![v699.toNat, 0]
def k0_off600 (v709 : BitVec 32) : Fin 2 → Nat :=
  let c0_i32_448 : BitVec 32 := 0#32
  ![v709.toNat, 0]

def k0_chk246 (v709 : BitVec 32) : Prop :=
  (∀ a, (k0_off600 v709) a + S1x64.size a ≤ S1000000x64.size a)
instance k0_chk246.dec : ∀ (v709 : BitVec 32), Decidable (k0_chk246 v709) := fun v709 => decidable_of_iff' _ (Iff.of_eq (k0_chk246.eq_1 v709))
theorem k0_off600_inb : ∀ (v709 : BitVec 32) (k0_hw246 : k0_chk246 v709), ∀ a, (k0_off600 v709) a + S1x64.size a ≤ S1000000x64.size a := fun v709 k0_hw246 => k0_hw246

def k0_off601 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_416 : BitVec 32 := 16#32
  let v648 : BitVec 32 := Scalar.muli arg13 c16_i32_416
  let c8_i32 : BitVec 32 := 8#32
  let v649 : BitVec 32 := Scalar.addi v648 c8_i32
  let c5_i32_445 : BitVec 32 := 5#32
  let v710 : BitVec 32 := Scalar.muli v649 c5_i32_445
  let c4_i32_446 : BitVec 32 := 4#32
  let v711 : BitVec 32 := Scalar.addi v710 c4_i32_446
  let c0_i32_449 : BitVec 32 := 0#32
  ![v711.toNat, 0]
def k0_off602 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_451 : BitVec 32 := 16#32
  let v720 : BitVec 32 := Scalar.muli arg13 c16_i32_451
  let c9_i32 : BitVec 32 := 9#32
  let v721 : BitVec 32 := Scalar.addi v720 c9_i32
  let c0_i32_452 : BitVec 32 := 0#32
  ![v721.toNat, 0]
def k0_off603 (v723 : BitVec 32) : Fin 2 → Nat :=
  let c0_i32_453 : BitVec 32 := 0#32
  ![v723.toNat, 0]

def k0_chk247 (v723 : BitVec 32) : Prop :=
  (∀ a, (k0_off603 v723) a + S1x64.size a ≤ S1000000x64.size a)
instance k0_chk247.dec : ∀ (v723 : BitVec 32), Decidable (k0_chk247 v723) := fun v723 => decidable_of_iff' _ (Iff.of_eq (k0_chk247.eq_1 v723))
theorem k0_off603_inb : ∀ (v723 : BitVec 32) (k0_hw247 : k0_chk247 v723), ∀ a, (k0_off603 v723) a + S1x64.size a ≤ S1000000x64.size a := fun v723 k0_hw247 => k0_hw247

def k0_off604 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_451 : BitVec 32 := 16#32
  let v720 : BitVec 32 := Scalar.muli arg13 c16_i32_451
  let c9_i32 : BitVec 32 := 9#32
  let v721 : BitVec 32 := Scalar.addi v720 c9_i32
  let c0_i32_454 : BitVec 32 := 0#32
  ![v721.toNat, 0]
def k0_off605 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_451 : BitVec 32 := 16#32
  let v720 : BitVec 32 := Scalar.muli arg13 c16_i32_451
  let c9_i32 : BitVec 32 := 9#32
  let v721 : BitVec 32 := Scalar.addi v720 c9_i32
  let c5_i32_456 : BitVec 32 := 5#32
  let v734 : BitVec 32 := Scalar.muli v721 c5_i32_456
  let c0_i32_457 : BitVec 32 := 0#32
  let v735 : BitVec 32 := Scalar.addi v734 c0_i32_457
  let c0_i32_458 : BitVec 32 := 0#32
  ![v735.toNat, 0]
def k0_off606 (v733 : BitVec 32) : Fin 2 → Nat :=
  let c0_i32_459 : BitVec 32 := 0#32
  ![v733.toNat, 0]

def k0_chk248 (v733 : BitVec 32) : Prop :=
  (∀ a, (k0_off606 v733) a + S1x64.size a ≤ S1000000x64.size a)
instance k0_chk248.dec : ∀ (v733 : BitVec 32), Decidable (k0_chk248 v733) := fun v733 => decidable_of_iff' _ (Iff.of_eq (k0_chk248.eq_1 v733))
theorem k0_off606_inb : ∀ (v733 : BitVec 32) (k0_hw248 : k0_chk248 v733), ∀ a, (k0_off606 v733) a + S1x64.size a ≤ S1000000x64.size a := fun v733 k0_hw248 => k0_hw248

def k0_off607 (k0_t7 : Fin k0_t7_loop.trips) (c0_i32_457 : BitVec 32) : Fin 2 → Nat :=
  let c0_i32_29 : BitVec 32 := 0#32
  let c1_i32_31 : BitVec 32 := 1#32
  let arg13 : BitVec 32 := Scf.iv c0_i32_29 c1_i32_31 k0_t7
  let c16_i32_451 : BitVec 32 := 16#32
  let v720 : BitVec 32 := Scalar.muli arg13 c16_i32_451
  let c9_i32 : BitVec 32 := 9#32
  let v721 : BitVec 32 := Scalar.addi v720 c9_i32
  let c5_i32_456 : BitVec 32 := 5#32
  let v734 : BitVec 32 := Scalar.muli v721 c5_i32_456
  let v735 : BitVec 32 := Scalar.addi v734 c0_i32_457
  let c0_i32_460 : BitVec 32 := 0#32
  ![v735.toNat, 0]
def k0_off608 (v745 : BitVec 32) : Fin 2 → Nat :=
  let c0_i32_465 : BitVec 32 := 0#32
  ![v745.toNat, 0]

def k0_chk249 (v745 : BitVec 32) : Prop :=
  (∀ a, (k0_off608 v745) a + S1x64.size a ≤ S1000000x64.size a)
instance k0_chk249.dec : ∀ (v745 : BitVec 32), Decidable (k0_chk249 v745) := fun v745 => decidable_of_iff' _ (Iff.of_eq (k0_chk249.eq_1 v745))
theorem k0_off608_inb : ∀ (v745 : BitVec 32) (k0_hw249 : k0_chk249 v745), ∀ a, (k0_off608 v745) a + S1x64.size a ≤ S1000000x64.size a := fun v745 k0_hw249 => k0_hw249

def k0_off609 (k0_t7 : Fin k0_t7_loop.trips) (c1_i32_463 : BitVec 32) : Fin 2 → Nat :=
  let c0_i32_29 : BitVec 32 := 0#32
  let c1_i32_31 : BitVec 32 := 1#32
  let arg13 : BitVec 32 := Scf.iv c0_i32_29 c1_i32_31 k0_t7
  let c16_i32_451 : BitVec 32 := 16#32
  let v720 : BitVec 32 := Scalar.muli arg13 c16_i32_451
  let c9_i32 : BitVec 32 := 9#32
  let v721 : BitVec 32 := Scalar.addi v720 c9_i32
  let c5_i32_462 : BitVec 32 := 5#32
  let v746 : BitVec 32 := Scalar.muli v721 c5_i32_462
  let v747 : BitVec 32 := Scalar.addi v746 c1_i32_463
  let c0_i32_466 : BitVec 32 := 0#32
  ![v747.toNat, 0]
def k0_off610 (v757 : BitVec 32) : Fin 2 → Nat :=
  let c0_i32_471 : BitVec 32 := 0#32
  ![v757.toNat, 0]

def k0_chk250 (v757 : BitVec 32) : Prop :=
  (∀ a, (k0_off610 v757) a + S1x64.size a ≤ S1000000x64.size a)
instance k0_chk250.dec : ∀ (v757 : BitVec 32), Decidable (k0_chk250 v757) := fun v757 => decidable_of_iff' _ (Iff.of_eq (k0_chk250.eq_1 v757))
theorem k0_off610_inb : ∀ (v757 : BitVec 32) (k0_hw250 : k0_chk250 v757), ∀ a, (k0_off610 v757) a + S1x64.size a ≤ S1000000x64.size a := fun v757 k0_hw250 => k0_hw250

def k0_off611 (k0_t7 : Fin k0_t7_loop.trips) (c2_i32_469 : BitVec 32) : Fin 2 → Nat :=
  let c0_i32_29 : BitVec 32 := 0#32
  let c1_i32_31 : BitVec 32 := 1#32
  let arg13 : BitVec 32 := Scf.iv c0_i32_29 c1_i32_31 k0_t7
  let c16_i32_451 : BitVec 32 := 16#32
  let v720 : BitVec 32 := Scalar.muli arg13 c16_i32_451
  let c9_i32 : BitVec 32 := 9#32
  let v721 : BitVec 32 := Scalar.addi v720 c9_i32
  let c5_i32_468 : BitVec 32 := 5#32
  let v758 : BitVec 32 := Scalar.muli v721 c5_i32_468
  let v759 : BitVec 32 := Scalar.addi v758 c2_i32_469
  let c0_i32_472 : BitVec 32 := 0#32
  ![v759.toNat, 0]
def k0_off612 (v769 : BitVec 32) : Fin 2 → Nat :=
  let c0_i32_477 : BitVec 32 := 0#32
  ![v769.toNat, 0]

def k0_chk251 (v769 : BitVec 32) : Prop :=
  (∀ a, (k0_off612 v769) a + S1x64.size a ≤ S1000000x64.size a)
instance k0_chk251.dec : ∀ (v769 : BitVec 32), Decidable (k0_chk251 v769) := fun v769 => decidable_of_iff' _ (Iff.of_eq (k0_chk251.eq_1 v769))
theorem k0_off612_inb : ∀ (v769 : BitVec 32) (k0_hw251 : k0_chk251 v769), ∀ a, (k0_off612 v769) a + S1x64.size a ≤ S1000000x64.size a := fun v769 k0_hw251 => k0_hw251

def k0_off613 (k0_t7 : Fin k0_t7_loop.trips) (c3_i32_475 : BitVec 32) : Fin 2 → Nat :=
  let c0_i32_29 : BitVec 32 := 0#32
  let c1_i32_31 : BitVec 32 := 1#32
  let arg13 : BitVec 32 := Scf.iv c0_i32_29 c1_i32_31 k0_t7
  let c16_i32_451 : BitVec 32 := 16#32
  let v720 : BitVec 32 := Scalar.muli arg13 c16_i32_451
  let c9_i32 : BitVec 32 := 9#32
  let v721 : BitVec 32 := Scalar.addi v720 c9_i32
  let c5_i32_474 : BitVec 32 := 5#32
  let v770 : BitVec 32 := Scalar.muli v721 c5_i32_474
  let v771 : BitVec 32 := Scalar.addi v770 c3_i32_475
  let c0_i32_478 : BitVec 32 := 0#32
  ![v771.toNat, 0]
def k0_off614 (v781 : BitVec 32) : Fin 2 → Nat :=
  let c0_i32_483 : BitVec 32 := 0#32
  ![v781.toNat, 0]

def k0_chk252 (v781 : BitVec 32) : Prop :=
  (∀ a, (k0_off614 v781) a + S1x64.size a ≤ S1000000x64.size a)
instance k0_chk252.dec : ∀ (v781 : BitVec 32), Decidable (k0_chk252 v781) := fun v781 => decidable_of_iff' _ (Iff.of_eq (k0_chk252.eq_1 v781))
theorem k0_off614_inb : ∀ (v781 : BitVec 32) (k0_hw252 : k0_chk252 v781), ∀ a, (k0_off614 v781) a + S1x64.size a ≤ S1000000x64.size a := fun v781 k0_hw252 => k0_hw252

def k0_off615 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_451 : BitVec 32 := 16#32
  let v720 : BitVec 32 := Scalar.muli arg13 c16_i32_451
  let c9_i32 : BitVec 32 := 9#32
  let v721 : BitVec 32 := Scalar.addi v720 c9_i32
  let c5_i32_480 : BitVec 32 := 5#32
  let v782 : BitVec 32 := Scalar.muli v721 c5_i32_480
  let c4_i32_481 : BitVec 32 := 4#32
  let v783 : BitVec 32 := Scalar.addi v782 c4_i32_481
  let c0_i32_484 : BitVec 32 := 0#32
  ![v783.toNat, 0]
def k0_off616 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_486 : BitVec 32 := 16#32
  let v792 : BitVec 32 := Scalar.muli arg13 c16_i32_486
  let c10_i32 : BitVec 32 := 10#32
  let v793 : BitVec 32 := Scalar.addi v792 c10_i32
  let c0_i32_487 : BitVec 32 := 0#32
  ![v793.toNat, 0]
def k0_off617 (v795 : BitVec 32) : Fin 2 → Nat :=
  let c0_i32_488 : BitVec 32 := 0#32
  ![v795.toNat, 0]

def k0_chk253 (v795 : BitVec 32) : Prop :=
  (∀ a, (k0_off617 v795) a + S1x64.size a ≤ S1000000x64.size a)
instance k0_chk253.dec : ∀ (v795 : BitVec 32), Decidable (k0_chk253 v795) := fun v795 => decidable_of_iff' _ (Iff.of_eq (k0_chk253.eq_1 v795))
theorem k0_off617_inb : ∀ (v795 : BitVec 32) (k0_hw253 : k0_chk253 v795), ∀ a, (k0_off617 v795) a + S1x64.size a ≤ S1000000x64.size a := fun v795 k0_hw253 => k0_hw253

def k0_off618 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_486 : BitVec 32 := 16#32
  let v792 : BitVec 32 := Scalar.muli arg13 c16_i32_486
  let c10_i32 : BitVec 32 := 10#32
  let v793 : BitVec 32 := Scalar.addi v792 c10_i32
  let c0_i32_489 : BitVec 32 := 0#32
  ![v793.toNat, 0]
def k0_off619 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_486 : BitVec 32 := 16#32
  let v792 : BitVec 32 := Scalar.muli arg13 c16_i32_486
  let c10_i32 : BitVec 32 := 10#32
  let v793 : BitVec 32 := Scalar.addi v792 c10_i32
  let c5_i32_491 : BitVec 32 := 5#32
  let v806 : BitVec 32 := Scalar.muli v793 c5_i32_491
  let c0_i32_492 : BitVec 32 := 0#32
  let v807 : BitVec 32 := Scalar.addi v806 c0_i32_492
  let c0_i32_493 : BitVec 32 := 0#32
  ![v807.toNat, 0]
def k0_off620 (v805 : BitVec 32) : Fin 2 → Nat :=
  let c0_i32_494 : BitVec 32 := 0#32
  ![v805.toNat, 0]

def k0_chk254 (v805 : BitVec 32) : Prop :=
  (∀ a, (k0_off620 v805) a + S1x64.size a ≤ S1000000x64.size a)
instance k0_chk254.dec : ∀ (v805 : BitVec 32), Decidable (k0_chk254 v805) := fun v805 => decidable_of_iff' _ (Iff.of_eq (k0_chk254.eq_1 v805))
theorem k0_off620_inb : ∀ (v805 : BitVec 32) (k0_hw254 : k0_chk254 v805), ∀ a, (k0_off620 v805) a + S1x64.size a ≤ S1000000x64.size a := fun v805 k0_hw254 => k0_hw254

def k0_off621 (k0_t7 : Fin k0_t7_loop.trips) (c0_i32_492 : BitVec 32) : Fin 2 → Nat :=
  let c0_i32_29 : BitVec 32 := 0#32
  let c1_i32_31 : BitVec 32 := 1#32
  let arg13 : BitVec 32 := Scf.iv c0_i32_29 c1_i32_31 k0_t7
  let c16_i32_486 : BitVec 32 := 16#32
  let v792 : BitVec 32 := Scalar.muli arg13 c16_i32_486
  let c10_i32 : BitVec 32 := 10#32
  let v793 : BitVec 32 := Scalar.addi v792 c10_i32
  let c5_i32_491 : BitVec 32 := 5#32
  let v806 : BitVec 32 := Scalar.muli v793 c5_i32_491
  let v807 : BitVec 32 := Scalar.addi v806 c0_i32_492
  let c0_i32_495 : BitVec 32 := 0#32
  ![v807.toNat, 0]
def k0_off622 (v817 : BitVec 32) : Fin 2 → Nat :=
  let c0_i32_500 : BitVec 32 := 0#32
  ![v817.toNat, 0]

def k0_chk255 (v817 : BitVec 32) : Prop :=
  (∀ a, (k0_off622 v817) a + S1x64.size a ≤ S1000000x64.size a)
instance k0_chk255.dec : ∀ (v817 : BitVec 32), Decidable (k0_chk255 v817) := fun v817 => decidable_of_iff' _ (Iff.of_eq (k0_chk255.eq_1 v817))
theorem k0_off622_inb : ∀ (v817 : BitVec 32) (k0_hw255 : k0_chk255 v817), ∀ a, (k0_off622 v817) a + S1x64.size a ≤ S1000000x64.size a := fun v817 k0_hw255 => k0_hw255

def k0_off623 (k0_t7 : Fin k0_t7_loop.trips) (c1_i32_498 : BitVec 32) : Fin 2 → Nat :=
  let c0_i32_29 : BitVec 32 := 0#32
  let c1_i32_31 : BitVec 32 := 1#32
  let arg13 : BitVec 32 := Scf.iv c0_i32_29 c1_i32_31 k0_t7
  let c16_i32_486 : BitVec 32 := 16#32
  let v792 : BitVec 32 := Scalar.muli arg13 c16_i32_486
  let c10_i32 : BitVec 32 := 10#32
  let v793 : BitVec 32 := Scalar.addi v792 c10_i32
  let c5_i32_497 : BitVec 32 := 5#32
  let v818 : BitVec 32 := Scalar.muli v793 c5_i32_497
  let v819 : BitVec 32 := Scalar.addi v818 c1_i32_498
  let c0_i32_501 : BitVec 32 := 0#32
  ![v819.toNat, 0]
def k0_off624 (v829 : BitVec 32) : Fin 2 → Nat :=
  let c0_i32_506 : BitVec 32 := 0#32
  ![v829.toNat, 0]

def k0_chk256 (v829 : BitVec 32) : Prop :=
  (∀ a, (k0_off624 v829) a + S1x64.size a ≤ S1000000x64.size a)
instance k0_chk256.dec : ∀ (v829 : BitVec 32), Decidable (k0_chk256 v829) := fun v829 => decidable_of_iff' _ (Iff.of_eq (k0_chk256.eq_1 v829))
theorem k0_off624_inb : ∀ (v829 : BitVec 32) (k0_hw256 : k0_chk256 v829), ∀ a, (k0_off624 v829) a + S1x64.size a ≤ S1000000x64.size a := fun v829 k0_hw256 => k0_hw256

def k0_off625 (k0_t7 : Fin k0_t7_loop.trips) (c2_i32_504 : BitVec 32) : Fin 2 → Nat :=
  let c0_i32_29 : BitVec 32 := 0#32
  let c1_i32_31 : BitVec 32 := 1#32
  let arg13 : BitVec 32 := Scf.iv c0_i32_29 c1_i32_31 k0_t7
  let c16_i32_486 : BitVec 32 := 16#32
  let v792 : BitVec 32 := Scalar.muli arg13 c16_i32_486
  let c10_i32 : BitVec 32 := 10#32
  let v793 : BitVec 32 := Scalar.addi v792 c10_i32
  let c5_i32_503 : BitVec 32 := 5#32
  let v830 : BitVec 32 := Scalar.muli v793 c5_i32_503
  let v831 : BitVec 32 := Scalar.addi v830 c2_i32_504
  let c0_i32_507 : BitVec 32 := 0#32
  ![v831.toNat, 0]
def k0_off626 (v841 : BitVec 32) : Fin 2 → Nat :=
  let c0_i32_512 : BitVec 32 := 0#32
  ![v841.toNat, 0]

def k0_chk257 (v841 : BitVec 32) : Prop :=
  (∀ a, (k0_off626 v841) a + S1x64.size a ≤ S1000000x64.size a)
instance k0_chk257.dec : ∀ (v841 : BitVec 32), Decidable (k0_chk257 v841) := fun v841 => decidable_of_iff' _ (Iff.of_eq (k0_chk257.eq_1 v841))
theorem k0_off626_inb : ∀ (v841 : BitVec 32) (k0_hw257 : k0_chk257 v841), ∀ a, (k0_off626 v841) a + S1x64.size a ≤ S1000000x64.size a := fun v841 k0_hw257 => k0_hw257

def k0_off627 (k0_t7 : Fin k0_t7_loop.trips) (c3_i32_510 : BitVec 32) : Fin 2 → Nat :=
  let c0_i32_29 : BitVec 32 := 0#32
  let c1_i32_31 : BitVec 32 := 1#32
  let arg13 : BitVec 32 := Scf.iv c0_i32_29 c1_i32_31 k0_t7
  let c16_i32_486 : BitVec 32 := 16#32
  let v792 : BitVec 32 := Scalar.muli arg13 c16_i32_486
  let c10_i32 : BitVec 32 := 10#32
  let v793 : BitVec 32 := Scalar.addi v792 c10_i32
  let c5_i32_509 : BitVec 32 := 5#32
  let v842 : BitVec 32 := Scalar.muli v793 c5_i32_509
  let v843 : BitVec 32 := Scalar.addi v842 c3_i32_510
  let c0_i32_513 : BitVec 32 := 0#32
  ![v843.toNat, 0]
def k0_off628 (v853 : BitVec 32) : Fin 2 → Nat :=
  let c0_i32_518 : BitVec 32 := 0#32
  ![v853.toNat, 0]

def k0_chk258 (v853 : BitVec 32) : Prop :=
  (∀ a, (k0_off628 v853) a + S1x64.size a ≤ S1000000x64.size a)
instance k0_chk258.dec : ∀ (v853 : BitVec 32), Decidable (k0_chk258 v853) := fun v853 => decidable_of_iff' _ (Iff.of_eq (k0_chk258.eq_1 v853))
theorem k0_off628_inb : ∀ (v853 : BitVec 32) (k0_hw258 : k0_chk258 v853), ∀ a, (k0_off628 v853) a + S1x64.size a ≤ S1000000x64.size a := fun v853 k0_hw258 => k0_hw258

def k0_off629 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_486 : BitVec 32 := 16#32
  let v792 : BitVec 32 := Scalar.muli arg13 c16_i32_486
  let c10_i32 : BitVec 32 := 10#32
  let v793 : BitVec 32 := Scalar.addi v792 c10_i32
  let c5_i32_515 : BitVec 32 := 5#32
  let v854 : BitVec 32 := Scalar.muli v793 c5_i32_515
  let c4_i32_516 : BitVec 32 := 4#32
  let v855 : BitVec 32 := Scalar.addi v854 c4_i32_516
  let c0_i32_519 : BitVec 32 := 0#32
  ![v855.toNat, 0]
def k0_off630 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_521 : BitVec 32 := 16#32
  let v864 : BitVec 32 := Scalar.muli arg13 c16_i32_521
  let c11_i32 : BitVec 32 := 11#32
  let v865 : BitVec 32 := Scalar.addi v864 c11_i32
  let c0_i32_522 : BitVec 32 := 0#32
  ![v865.toNat, 0]
def k0_off631 (v867 : BitVec 32) : Fin 2 → Nat :=
  let c0_i32_523 : BitVec 32 := 0#32
  ![v867.toNat, 0]

def k0_chk259 (v867 : BitVec 32) : Prop :=
  (∀ a, (k0_off631 v867) a + S1x64.size a ≤ S1000000x64.size a)
instance k0_chk259.dec : ∀ (v867 : BitVec 32), Decidable (k0_chk259 v867) := fun v867 => decidable_of_iff' _ (Iff.of_eq (k0_chk259.eq_1 v867))
theorem k0_off631_inb : ∀ (v867 : BitVec 32) (k0_hw259 : k0_chk259 v867), ∀ a, (k0_off631 v867) a + S1x64.size a ≤ S1000000x64.size a := fun v867 k0_hw259 => k0_hw259

def k0_off632 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_521 : BitVec 32 := 16#32
  let v864 : BitVec 32 := Scalar.muli arg13 c16_i32_521
  let c11_i32 : BitVec 32 := 11#32
  let v865 : BitVec 32 := Scalar.addi v864 c11_i32
  let c0_i32_524 : BitVec 32 := 0#32
  ![v865.toNat, 0]
def k0_off633 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_521 : BitVec 32 := 16#32
  let v864 : BitVec 32 := Scalar.muli arg13 c16_i32_521
  let c11_i32 : BitVec 32 := 11#32
  let v865 : BitVec 32 := Scalar.addi v864 c11_i32
  let c5_i32_526 : BitVec 32 := 5#32
  let v878 : BitVec 32 := Scalar.muli v865 c5_i32_526
  let c0_i32_527 : BitVec 32 := 0#32
  let v879 : BitVec 32 := Scalar.addi v878 c0_i32_527
  let c0_i32_528 : BitVec 32 := 0#32
  ![v879.toNat, 0]
def k0_off634 (v877 : BitVec 32) : Fin 2 → Nat :=
  let c0_i32_529 : BitVec 32 := 0#32
  ![v877.toNat, 0]

def k0_chk260 (v877 : BitVec 32) : Prop :=
  (∀ a, (k0_off634 v877) a + S1x64.size a ≤ S1000000x64.size a)
instance k0_chk260.dec : ∀ (v877 : BitVec 32), Decidable (k0_chk260 v877) := fun v877 => decidable_of_iff' _ (Iff.of_eq (k0_chk260.eq_1 v877))
theorem k0_off634_inb : ∀ (v877 : BitVec 32) (k0_hw260 : k0_chk260 v877), ∀ a, (k0_off634 v877) a + S1x64.size a ≤ S1000000x64.size a := fun v877 k0_hw260 => k0_hw260

def k0_off635 (k0_t7 : Fin k0_t7_loop.trips) (c0_i32_527 : BitVec 32) : Fin 2 → Nat :=
  let c0_i32_29 : BitVec 32 := 0#32
  let c1_i32_31 : BitVec 32 := 1#32
  let arg13 : BitVec 32 := Scf.iv c0_i32_29 c1_i32_31 k0_t7
  let c16_i32_521 : BitVec 32 := 16#32
  let v864 : BitVec 32 := Scalar.muli arg13 c16_i32_521
  let c11_i32 : BitVec 32 := 11#32
  let v865 : BitVec 32 := Scalar.addi v864 c11_i32
  let c5_i32_526 : BitVec 32 := 5#32
  let v878 : BitVec 32 := Scalar.muli v865 c5_i32_526
  let v879 : BitVec 32 := Scalar.addi v878 c0_i32_527
  let c0_i32_530 : BitVec 32 := 0#32
  ![v879.toNat, 0]
def k0_off636 (v889 : BitVec 32) : Fin 2 → Nat :=
  let c0_i32_535 : BitVec 32 := 0#32
  ![v889.toNat, 0]

def k0_chk261 (v889 : BitVec 32) : Prop :=
  (∀ a, (k0_off636 v889) a + S1x64.size a ≤ S1000000x64.size a)
instance k0_chk261.dec : ∀ (v889 : BitVec 32), Decidable (k0_chk261 v889) := fun v889 => decidable_of_iff' _ (Iff.of_eq (k0_chk261.eq_1 v889))
theorem k0_off636_inb : ∀ (v889 : BitVec 32) (k0_hw261 : k0_chk261 v889), ∀ a, (k0_off636 v889) a + S1x64.size a ≤ S1000000x64.size a := fun v889 k0_hw261 => k0_hw261

def k0_off637 (k0_t7 : Fin k0_t7_loop.trips) (c1_i32_533 : BitVec 32) : Fin 2 → Nat :=
  let c0_i32_29 : BitVec 32 := 0#32
  let c1_i32_31 : BitVec 32 := 1#32
  let arg13 : BitVec 32 := Scf.iv c0_i32_29 c1_i32_31 k0_t7
  let c16_i32_521 : BitVec 32 := 16#32
  let v864 : BitVec 32 := Scalar.muli arg13 c16_i32_521
  let c11_i32 : BitVec 32 := 11#32
  let v865 : BitVec 32 := Scalar.addi v864 c11_i32
  let c5_i32_532 : BitVec 32 := 5#32
  let v890 : BitVec 32 := Scalar.muli v865 c5_i32_532
  let v891 : BitVec 32 := Scalar.addi v890 c1_i32_533
  let c0_i32_536 : BitVec 32 := 0#32
  ![v891.toNat, 0]
def k0_off638 (v901 : BitVec 32) : Fin 2 → Nat :=
  let c0_i32_541 : BitVec 32 := 0#32
  ![v901.toNat, 0]

def k0_chk262 (v901 : BitVec 32) : Prop :=
  (∀ a, (k0_off638 v901) a + S1x64.size a ≤ S1000000x64.size a)
instance k0_chk262.dec : ∀ (v901 : BitVec 32), Decidable (k0_chk262 v901) := fun v901 => decidable_of_iff' _ (Iff.of_eq (k0_chk262.eq_1 v901))
theorem k0_off638_inb : ∀ (v901 : BitVec 32) (k0_hw262 : k0_chk262 v901), ∀ a, (k0_off638 v901) a + S1x64.size a ≤ S1000000x64.size a := fun v901 k0_hw262 => k0_hw262

def k0_off639 (k0_t7 : Fin k0_t7_loop.trips) (c2_i32_539 : BitVec 32) : Fin 2 → Nat :=
  let c0_i32_29 : BitVec 32 := 0#32
  let c1_i32_31 : BitVec 32 := 1#32
  let arg13 : BitVec 32 := Scf.iv c0_i32_29 c1_i32_31 k0_t7
  let c16_i32_521 : BitVec 32 := 16#32
  let v864 : BitVec 32 := Scalar.muli arg13 c16_i32_521
  let c11_i32 : BitVec 32 := 11#32
  let v865 : BitVec 32 := Scalar.addi v864 c11_i32
  let c5_i32_538 : BitVec 32 := 5#32
  let v902 : BitVec 32 := Scalar.muli v865 c5_i32_538
  let v903 : BitVec 32 := Scalar.addi v902 c2_i32_539
  let c0_i32_542 : BitVec 32 := 0#32
  ![v903.toNat, 0]
def k0_off640 (v913 : BitVec 32) : Fin 2 → Nat :=
  let c0_i32_547 : BitVec 32 := 0#32
  ![v913.toNat, 0]

def k0_chk263 (v913 : BitVec 32) : Prop :=
  (∀ a, (k0_off640 v913) a + S1x64.size a ≤ S1000000x64.size a)
instance k0_chk263.dec : ∀ (v913 : BitVec 32), Decidable (k0_chk263 v913) := fun v913 => decidable_of_iff' _ (Iff.of_eq (k0_chk263.eq_1 v913))
theorem k0_off640_inb : ∀ (v913 : BitVec 32) (k0_hw263 : k0_chk263 v913), ∀ a, (k0_off640 v913) a + S1x64.size a ≤ S1000000x64.size a := fun v913 k0_hw263 => k0_hw263

def k0_off641 (k0_t7 : Fin k0_t7_loop.trips) (c3_i32_545 : BitVec 32) : Fin 2 → Nat :=
  let c0_i32_29 : BitVec 32 := 0#32
  let c1_i32_31 : BitVec 32 := 1#32
  let arg13 : BitVec 32 := Scf.iv c0_i32_29 c1_i32_31 k0_t7
  let c16_i32_521 : BitVec 32 := 16#32
  let v864 : BitVec 32 := Scalar.muli arg13 c16_i32_521
  let c11_i32 : BitVec 32 := 11#32
  let v865 : BitVec 32 := Scalar.addi v864 c11_i32
  let c5_i32_544 : BitVec 32 := 5#32
  let v914 : BitVec 32 := Scalar.muli v865 c5_i32_544
  let v915 : BitVec 32 := Scalar.addi v914 c3_i32_545
  let c0_i32_548 : BitVec 32 := 0#32
  ![v915.toNat, 0]
def k0_off642 (v925 : BitVec 32) : Fin 2 → Nat :=
  let c0_i32_553 : BitVec 32 := 0#32
  ![v925.toNat, 0]

def k0_chk264 (v925 : BitVec 32) : Prop :=
  (∀ a, (k0_off642 v925) a + S1x64.size a ≤ S1000000x64.size a)
instance k0_chk264.dec : ∀ (v925 : BitVec 32), Decidable (k0_chk264 v925) := fun v925 => decidable_of_iff' _ (Iff.of_eq (k0_chk264.eq_1 v925))
theorem k0_off642_inb : ∀ (v925 : BitVec 32) (k0_hw264 : k0_chk264 v925), ∀ a, (k0_off642 v925) a + S1x64.size a ≤ S1000000x64.size a := fun v925 k0_hw264 => k0_hw264

def k0_off643 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_521 : BitVec 32 := 16#32
  let v864 : BitVec 32 := Scalar.muli arg13 c16_i32_521
  let c11_i32 : BitVec 32 := 11#32
  let v865 : BitVec 32 := Scalar.addi v864 c11_i32
  let c5_i32_550 : BitVec 32 := 5#32
  let v926 : BitVec 32 := Scalar.muli v865 c5_i32_550
  let c4_i32_551 : BitVec 32 := 4#32
  let v927 : BitVec 32 := Scalar.addi v926 c4_i32_551
  let c0_i32_554 : BitVec 32 := 0#32
  ![v927.toNat, 0]
def k0_off644 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_556 : BitVec 32 := 16#32
  let v936 : BitVec 32 := Scalar.muli arg13 c16_i32_556
  let c12_i32 : BitVec 32 := 12#32
  let v937 : BitVec 32 := Scalar.addi v936 c12_i32
  let c0_i32_557 : BitVec 32 := 0#32
  ![v937.toNat, 0]
def k0_off645 (v939 : BitVec 32) : Fin 2 → Nat :=
  let c0_i32_558 : BitVec 32 := 0#32
  ![v939.toNat, 0]

def k0_chk265 (v939 : BitVec 32) : Prop :=
  (∀ a, (k0_off645 v939) a + S1x64.size a ≤ S1000000x64.size a)
instance k0_chk265.dec : ∀ (v939 : BitVec 32), Decidable (k0_chk265 v939) := fun v939 => decidable_of_iff' _ (Iff.of_eq (k0_chk265.eq_1 v939))
theorem k0_off645_inb : ∀ (v939 : BitVec 32) (k0_hw265 : k0_chk265 v939), ∀ a, (k0_off645 v939) a + S1x64.size a ≤ S1000000x64.size a := fun v939 k0_hw265 => k0_hw265

def k0_off646 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_556 : BitVec 32 := 16#32
  let v936 : BitVec 32 := Scalar.muli arg13 c16_i32_556
  let c12_i32 : BitVec 32 := 12#32
  let v937 : BitVec 32 := Scalar.addi v936 c12_i32
  let c0_i32_559 : BitVec 32 := 0#32
  ![v937.toNat, 0]
def k0_off647 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_556 : BitVec 32 := 16#32
  let v936 : BitVec 32 := Scalar.muli arg13 c16_i32_556
  let c12_i32 : BitVec 32 := 12#32
  let v937 : BitVec 32 := Scalar.addi v936 c12_i32
  let c5_i32_561 : BitVec 32 := 5#32
  let v950 : BitVec 32 := Scalar.muli v937 c5_i32_561
  let c0_i32_562 : BitVec 32 := 0#32
  let v951 : BitVec 32 := Scalar.addi v950 c0_i32_562
  let c0_i32_563 : BitVec 32 := 0#32
  ![v951.toNat, 0]
def k0_off648 (v949 : BitVec 32) : Fin 2 → Nat :=
  let c0_i32_564 : BitVec 32 := 0#32
  ![v949.toNat, 0]

def k0_chk266 (v949 : BitVec 32) : Prop :=
  (∀ a, (k0_off648 v949) a + S1x64.size a ≤ S1000000x64.size a)
instance k0_chk266.dec : ∀ (v949 : BitVec 32), Decidable (k0_chk266 v949) := fun v949 => decidable_of_iff' _ (Iff.of_eq (k0_chk266.eq_1 v949))
theorem k0_off648_inb : ∀ (v949 : BitVec 32) (k0_hw266 : k0_chk266 v949), ∀ a, (k0_off648 v949) a + S1x64.size a ≤ S1000000x64.size a := fun v949 k0_hw266 => k0_hw266

def k0_off649 (k0_t7 : Fin k0_t7_loop.trips) (c0_i32_562 : BitVec 32) : Fin 2 → Nat :=
  let c0_i32_29 : BitVec 32 := 0#32
  let c1_i32_31 : BitVec 32 := 1#32
  let arg13 : BitVec 32 := Scf.iv c0_i32_29 c1_i32_31 k0_t7
  let c16_i32_556 : BitVec 32 := 16#32
  let v936 : BitVec 32 := Scalar.muli arg13 c16_i32_556
  let c12_i32 : BitVec 32 := 12#32
  let v937 : BitVec 32 := Scalar.addi v936 c12_i32
  let c5_i32_561 : BitVec 32 := 5#32
  let v950 : BitVec 32 := Scalar.muli v937 c5_i32_561
  let v951 : BitVec 32 := Scalar.addi v950 c0_i32_562
  let c0_i32_565 : BitVec 32 := 0#32
  ![v951.toNat, 0]
def k0_off650 (v961 : BitVec 32) : Fin 2 → Nat :=
  let c0_i32_570 : BitVec 32 := 0#32
  ![v961.toNat, 0]

def k0_chk267 (v961 : BitVec 32) : Prop :=
  (∀ a, (k0_off650 v961) a + S1x64.size a ≤ S1000000x64.size a)
instance k0_chk267.dec : ∀ (v961 : BitVec 32), Decidable (k0_chk267 v961) := fun v961 => decidable_of_iff' _ (Iff.of_eq (k0_chk267.eq_1 v961))
theorem k0_off650_inb : ∀ (v961 : BitVec 32) (k0_hw267 : k0_chk267 v961), ∀ a, (k0_off650 v961) a + S1x64.size a ≤ S1000000x64.size a := fun v961 k0_hw267 => k0_hw267

def k0_off651 (k0_t7 : Fin k0_t7_loop.trips) (c1_i32_568 : BitVec 32) : Fin 2 → Nat :=
  let c0_i32_29 : BitVec 32 := 0#32
  let c1_i32_31 : BitVec 32 := 1#32
  let arg13 : BitVec 32 := Scf.iv c0_i32_29 c1_i32_31 k0_t7
  let c16_i32_556 : BitVec 32 := 16#32
  let v936 : BitVec 32 := Scalar.muli arg13 c16_i32_556
  let c12_i32 : BitVec 32 := 12#32
  let v937 : BitVec 32 := Scalar.addi v936 c12_i32
  let c5_i32_567 : BitVec 32 := 5#32
  let v962 : BitVec 32 := Scalar.muli v937 c5_i32_567
  let v963 : BitVec 32 := Scalar.addi v962 c1_i32_568
  let c0_i32_571 : BitVec 32 := 0#32
  ![v963.toNat, 0]
def k0_off652 (v973 : BitVec 32) : Fin 2 → Nat :=
  let c0_i32_576 : BitVec 32 := 0#32
  ![v973.toNat, 0]

def k0_chk268 (v973 : BitVec 32) : Prop :=
  (∀ a, (k0_off652 v973) a + S1x64.size a ≤ S1000000x64.size a)
instance k0_chk268.dec : ∀ (v973 : BitVec 32), Decidable (k0_chk268 v973) := fun v973 => decidable_of_iff' _ (Iff.of_eq (k0_chk268.eq_1 v973))
theorem k0_off652_inb : ∀ (v973 : BitVec 32) (k0_hw268 : k0_chk268 v973), ∀ a, (k0_off652 v973) a + S1x64.size a ≤ S1000000x64.size a := fun v973 k0_hw268 => k0_hw268

def k0_off653 (k0_t7 : Fin k0_t7_loop.trips) (c2_i32_574 : BitVec 32) : Fin 2 → Nat :=
  let c0_i32_29 : BitVec 32 := 0#32
  let c1_i32_31 : BitVec 32 := 1#32
  let arg13 : BitVec 32 := Scf.iv c0_i32_29 c1_i32_31 k0_t7
  let c16_i32_556 : BitVec 32 := 16#32
  let v936 : BitVec 32 := Scalar.muli arg13 c16_i32_556
  let c12_i32 : BitVec 32 := 12#32
  let v937 : BitVec 32 := Scalar.addi v936 c12_i32
  let c5_i32_573 : BitVec 32 := 5#32
  let v974 : BitVec 32 := Scalar.muli v937 c5_i32_573
  let v975 : BitVec 32 := Scalar.addi v974 c2_i32_574
  let c0_i32_577 : BitVec 32 := 0#32
  ![v975.toNat, 0]
def k0_off654 (v985 : BitVec 32) : Fin 2 → Nat :=
  let c0_i32_582 : BitVec 32 := 0#32
  ![v985.toNat, 0]

def k0_chk269 (v985 : BitVec 32) : Prop :=
  (∀ a, (k0_off654 v985) a + S1x64.size a ≤ S1000000x64.size a)
instance k0_chk269.dec : ∀ (v985 : BitVec 32), Decidable (k0_chk269 v985) := fun v985 => decidable_of_iff' _ (Iff.of_eq (k0_chk269.eq_1 v985))
theorem k0_off654_inb : ∀ (v985 : BitVec 32) (k0_hw269 : k0_chk269 v985), ∀ a, (k0_off654 v985) a + S1x64.size a ≤ S1000000x64.size a := fun v985 k0_hw269 => k0_hw269

def k0_off655 (k0_t7 : Fin k0_t7_loop.trips) (c3_i32_580 : BitVec 32) : Fin 2 → Nat :=
  let c0_i32_29 : BitVec 32 := 0#32
  let c1_i32_31 : BitVec 32 := 1#32
  let arg13 : BitVec 32 := Scf.iv c0_i32_29 c1_i32_31 k0_t7
  let c16_i32_556 : BitVec 32 := 16#32
  let v936 : BitVec 32 := Scalar.muli arg13 c16_i32_556
  let c12_i32 : BitVec 32 := 12#32
  let v937 : BitVec 32 := Scalar.addi v936 c12_i32
  let c5_i32_579 : BitVec 32 := 5#32
  let v986 : BitVec 32 := Scalar.muli v937 c5_i32_579
  let v987 : BitVec 32 := Scalar.addi v986 c3_i32_580
  let c0_i32_583 : BitVec 32 := 0#32
  ![v987.toNat, 0]
def k0_off656 (v997 : BitVec 32) : Fin 2 → Nat :=
  let c0_i32_588 : BitVec 32 := 0#32
  ![v997.toNat, 0]

def k0_chk270 (v997 : BitVec 32) : Prop :=
  (∀ a, (k0_off656 v997) a + S1x64.size a ≤ S1000000x64.size a)
instance k0_chk270.dec : ∀ (v997 : BitVec 32), Decidable (k0_chk270 v997) := fun v997 => decidable_of_iff' _ (Iff.of_eq (k0_chk270.eq_1 v997))
theorem k0_off656_inb : ∀ (v997 : BitVec 32) (k0_hw270 : k0_chk270 v997), ∀ a, (k0_off656 v997) a + S1x64.size a ≤ S1000000x64.size a := fun v997 k0_hw270 => k0_hw270

def k0_off657 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_556 : BitVec 32 := 16#32
  let v936 : BitVec 32 := Scalar.muli arg13 c16_i32_556
  let c12_i32 : BitVec 32 := 12#32
  let v937 : BitVec 32 := Scalar.addi v936 c12_i32
  let c5_i32_585 : BitVec 32 := 5#32
  let v998 : BitVec 32 := Scalar.muli v937 c5_i32_585
  let c4_i32_586 : BitVec 32 := 4#32
  let v999 : BitVec 32 := Scalar.addi v998 c4_i32_586
  let c0_i32_589 : BitVec 32 := 0#32
  ![v999.toNat, 0]
def k0_off658 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_591 : BitVec 32 := 16#32
  let v1008 : BitVec 32 := Scalar.muli arg13 c16_i32_591
  let c13_i32 : BitVec 32 := 13#32
  let v1009 : BitVec 32 := Scalar.addi v1008 c13_i32
  let c0_i32_592 : BitVec 32 := 0#32
  ![v1009.toNat, 0]
def k0_off659 (v1011 : BitVec 32) : Fin 2 → Nat :=
  let c0_i32_593 : BitVec 32 := 0#32
  ![v1011.toNat, 0]

def k0_chk271 (v1011 : BitVec 32) : Prop :=
  (∀ a, (k0_off659 v1011) a + S1x64.size a ≤ S1000000x64.size a)
instance k0_chk271.dec : ∀ (v1011 : BitVec 32), Decidable (k0_chk271 v1011) := fun v1011 => decidable_of_iff' _ (Iff.of_eq (k0_chk271.eq_1 v1011))
theorem k0_off659_inb : ∀ (v1011 : BitVec 32) (k0_hw271 : k0_chk271 v1011), ∀ a, (k0_off659 v1011) a + S1x64.size a ≤ S1000000x64.size a := fun v1011 k0_hw271 => k0_hw271

def k0_off660 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_591 : BitVec 32 := 16#32
  let v1008 : BitVec 32 := Scalar.muli arg13 c16_i32_591
  let c13_i32 : BitVec 32 := 13#32
  let v1009 : BitVec 32 := Scalar.addi v1008 c13_i32
  let c0_i32_594 : BitVec 32 := 0#32
  ![v1009.toNat, 0]
def k0_off661 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_591 : BitVec 32 := 16#32
  let v1008 : BitVec 32 := Scalar.muli arg13 c16_i32_591
  let c13_i32 : BitVec 32 := 13#32
  let v1009 : BitVec 32 := Scalar.addi v1008 c13_i32
  let c5_i32_596 : BitVec 32 := 5#32
  let v1022 : BitVec 32 := Scalar.muli v1009 c5_i32_596
  let c0_i32_597 : BitVec 32 := 0#32
  let v1023 : BitVec 32 := Scalar.addi v1022 c0_i32_597
  let c0_i32_598 : BitVec 32 := 0#32
  ![v1023.toNat, 0]
def k0_off662 (v1021 : BitVec 32) : Fin 2 → Nat :=
  let c0_i32_599 : BitVec 32 := 0#32
  ![v1021.toNat, 0]

def k0_chk272 (v1021 : BitVec 32) : Prop :=
  (∀ a, (k0_off662 v1021) a + S1x64.size a ≤ S1000000x64.size a)
instance k0_chk272.dec : ∀ (v1021 : BitVec 32), Decidable (k0_chk272 v1021) := fun v1021 => decidable_of_iff' _ (Iff.of_eq (k0_chk272.eq_1 v1021))
theorem k0_off662_inb : ∀ (v1021 : BitVec 32) (k0_hw272 : k0_chk272 v1021), ∀ a, (k0_off662 v1021) a + S1x64.size a ≤ S1000000x64.size a := fun v1021 k0_hw272 => k0_hw272

def k0_off663 (k0_t7 : Fin k0_t7_loop.trips) (c0_i32_597 : BitVec 32) : Fin 2 → Nat :=
  let c0_i32_29 : BitVec 32 := 0#32
  let c1_i32_31 : BitVec 32 := 1#32
  let arg13 : BitVec 32 := Scf.iv c0_i32_29 c1_i32_31 k0_t7
  let c16_i32_591 : BitVec 32 := 16#32
  let v1008 : BitVec 32 := Scalar.muli arg13 c16_i32_591
  let c13_i32 : BitVec 32 := 13#32
  let v1009 : BitVec 32 := Scalar.addi v1008 c13_i32
  let c5_i32_596 : BitVec 32 := 5#32
  let v1022 : BitVec 32 := Scalar.muli v1009 c5_i32_596
  let v1023 : BitVec 32 := Scalar.addi v1022 c0_i32_597
  let c0_i32_600 : BitVec 32 := 0#32
  ![v1023.toNat, 0]
def k0_off664 (v1033 : BitVec 32) : Fin 2 → Nat :=
  let c0_i32_605 : BitVec 32 := 0#32
  ![v1033.toNat, 0]

def k0_chk273 (v1033 : BitVec 32) : Prop :=
  (∀ a, (k0_off664 v1033) a + S1x64.size a ≤ S1000000x64.size a)
instance k0_chk273.dec : ∀ (v1033 : BitVec 32), Decidable (k0_chk273 v1033) := fun v1033 => decidable_of_iff' _ (Iff.of_eq (k0_chk273.eq_1 v1033))
theorem k0_off664_inb : ∀ (v1033 : BitVec 32) (k0_hw273 : k0_chk273 v1033), ∀ a, (k0_off664 v1033) a + S1x64.size a ≤ S1000000x64.size a := fun v1033 k0_hw273 => k0_hw273

def k0_off665 (k0_t7 : Fin k0_t7_loop.trips) (c1_i32_603 : BitVec 32) : Fin 2 → Nat :=
  let c0_i32_29 : BitVec 32 := 0#32
  let c1_i32_31 : BitVec 32 := 1#32
  let arg13 : BitVec 32 := Scf.iv c0_i32_29 c1_i32_31 k0_t7
  let c16_i32_591 : BitVec 32 := 16#32
  let v1008 : BitVec 32 := Scalar.muli arg13 c16_i32_591
  let c13_i32 : BitVec 32 := 13#32
  let v1009 : BitVec 32 := Scalar.addi v1008 c13_i32
  let c5_i32_602 : BitVec 32 := 5#32
  let v1034 : BitVec 32 := Scalar.muli v1009 c5_i32_602
  let v1035 : BitVec 32 := Scalar.addi v1034 c1_i32_603
  let c0_i32_606 : BitVec 32 := 0#32
  ![v1035.toNat, 0]
def k0_off666 (v1045 : BitVec 32) : Fin 2 → Nat :=
  let c0_i32_611 : BitVec 32 := 0#32
  ![v1045.toNat, 0]

def k0_chk274 (v1045 : BitVec 32) : Prop :=
  (∀ a, (k0_off666 v1045) a + S1x64.size a ≤ S1000000x64.size a)
instance k0_chk274.dec : ∀ (v1045 : BitVec 32), Decidable (k0_chk274 v1045) := fun v1045 => decidable_of_iff' _ (Iff.of_eq (k0_chk274.eq_1 v1045))
theorem k0_off666_inb : ∀ (v1045 : BitVec 32) (k0_hw274 : k0_chk274 v1045), ∀ a, (k0_off666 v1045) a + S1x64.size a ≤ S1000000x64.size a := fun v1045 k0_hw274 => k0_hw274

def k0_off667 (k0_t7 : Fin k0_t7_loop.trips) (c2_i32_609 : BitVec 32) : Fin 2 → Nat :=
  let c0_i32_29 : BitVec 32 := 0#32
  let c1_i32_31 : BitVec 32 := 1#32
  let arg13 : BitVec 32 := Scf.iv c0_i32_29 c1_i32_31 k0_t7
  let c16_i32_591 : BitVec 32 := 16#32
  let v1008 : BitVec 32 := Scalar.muli arg13 c16_i32_591
  let c13_i32 : BitVec 32 := 13#32
  let v1009 : BitVec 32 := Scalar.addi v1008 c13_i32
  let c5_i32_608 : BitVec 32 := 5#32
  let v1046 : BitVec 32 := Scalar.muli v1009 c5_i32_608
  let v1047 : BitVec 32 := Scalar.addi v1046 c2_i32_609
  let c0_i32_612 : BitVec 32 := 0#32
  ![v1047.toNat, 0]
def k0_off668 (v1057 : BitVec 32) : Fin 2 → Nat :=
  let c0_i32_617 : BitVec 32 := 0#32
  ![v1057.toNat, 0]

def k0_chk275 (v1057 : BitVec 32) : Prop :=
  (∀ a, (k0_off668 v1057) a + S1x64.size a ≤ S1000000x64.size a)
instance k0_chk275.dec : ∀ (v1057 : BitVec 32), Decidable (k0_chk275 v1057) := fun v1057 => decidable_of_iff' _ (Iff.of_eq (k0_chk275.eq_1 v1057))
theorem k0_off668_inb : ∀ (v1057 : BitVec 32) (k0_hw275 : k0_chk275 v1057), ∀ a, (k0_off668 v1057) a + S1x64.size a ≤ S1000000x64.size a := fun v1057 k0_hw275 => k0_hw275

def k0_off669 (k0_t7 : Fin k0_t7_loop.trips) (c3_i32_615 : BitVec 32) : Fin 2 → Nat :=
  let c0_i32_29 : BitVec 32 := 0#32
  let c1_i32_31 : BitVec 32 := 1#32
  let arg13 : BitVec 32 := Scf.iv c0_i32_29 c1_i32_31 k0_t7
  let c16_i32_591 : BitVec 32 := 16#32
  let v1008 : BitVec 32 := Scalar.muli arg13 c16_i32_591
  let c13_i32 : BitVec 32 := 13#32
  let v1009 : BitVec 32 := Scalar.addi v1008 c13_i32
  let c5_i32_614 : BitVec 32 := 5#32
  let v1058 : BitVec 32 := Scalar.muli v1009 c5_i32_614
  let v1059 : BitVec 32 := Scalar.addi v1058 c3_i32_615
  let c0_i32_618 : BitVec 32 := 0#32
  ![v1059.toNat, 0]
def k0_off670 (v1069 : BitVec 32) : Fin 2 → Nat :=
  let c0_i32_623 : BitVec 32 := 0#32
  ![v1069.toNat, 0]

def k0_chk276 (v1069 : BitVec 32) : Prop :=
  (∀ a, (k0_off670 v1069) a + S1x64.size a ≤ S1000000x64.size a)
instance k0_chk276.dec : ∀ (v1069 : BitVec 32), Decidable (k0_chk276 v1069) := fun v1069 => decidable_of_iff' _ (Iff.of_eq (k0_chk276.eq_1 v1069))
theorem k0_off670_inb : ∀ (v1069 : BitVec 32) (k0_hw276 : k0_chk276 v1069), ∀ a, (k0_off670 v1069) a + S1x64.size a ≤ S1000000x64.size a := fun v1069 k0_hw276 => k0_hw276

def k0_off671 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_591 : BitVec 32 := 16#32
  let v1008 : BitVec 32 := Scalar.muli arg13 c16_i32_591
  let c13_i32 : BitVec 32 := 13#32
  let v1009 : BitVec 32 := Scalar.addi v1008 c13_i32
  let c5_i32_620 : BitVec 32 := 5#32
  let v1070 : BitVec 32 := Scalar.muli v1009 c5_i32_620
  let c4_i32_621 : BitVec 32 := 4#32
  let v1071 : BitVec 32 := Scalar.addi v1070 c4_i32_621
  let c0_i32_624 : BitVec 32 := 0#32
  ![v1071.toNat, 0]
def k0_off672 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_626 : BitVec 32 := 16#32
  let v1080 : BitVec 32 := Scalar.muli arg13 c16_i32_626
  let c14_i32 : BitVec 32 := 14#32
  let v1081 : BitVec 32 := Scalar.addi v1080 c14_i32
  let c0_i32_627 : BitVec 32 := 0#32
  ![v1081.toNat, 0]
def k0_off673 (v1083 : BitVec 32) : Fin 2 → Nat :=
  let c0_i32_628 : BitVec 32 := 0#32
  ![v1083.toNat, 0]

def k0_chk277 (v1083 : BitVec 32) : Prop :=
  (∀ a, (k0_off673 v1083) a + S1x64.size a ≤ S1000000x64.size a)
instance k0_chk277.dec : ∀ (v1083 : BitVec 32), Decidable (k0_chk277 v1083) := fun v1083 => decidable_of_iff' _ (Iff.of_eq (k0_chk277.eq_1 v1083))
theorem k0_off673_inb : ∀ (v1083 : BitVec 32) (k0_hw277 : k0_chk277 v1083), ∀ a, (k0_off673 v1083) a + S1x64.size a ≤ S1000000x64.size a := fun v1083 k0_hw277 => k0_hw277

def k0_off674 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_626 : BitVec 32 := 16#32
  let v1080 : BitVec 32 := Scalar.muli arg13 c16_i32_626
  let c14_i32 : BitVec 32 := 14#32
  let v1081 : BitVec 32 := Scalar.addi v1080 c14_i32
  let c0_i32_629 : BitVec 32 := 0#32
  ![v1081.toNat, 0]
def k0_off675 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_626 : BitVec 32 := 16#32
  let v1080 : BitVec 32 := Scalar.muli arg13 c16_i32_626
  let c14_i32 : BitVec 32 := 14#32
  let v1081 : BitVec 32 := Scalar.addi v1080 c14_i32
  let c5_i32_631 : BitVec 32 := 5#32
  let v1094 : BitVec 32 := Scalar.muli v1081 c5_i32_631
  let c0_i32_632 : BitVec 32 := 0#32
  let v1095 : BitVec 32 := Scalar.addi v1094 c0_i32_632
  let c0_i32_633 : BitVec 32 := 0#32
  ![v1095.toNat, 0]
def k0_off676 (v1093 : BitVec 32) : Fin 2 → Nat :=
  let c0_i32_634 : BitVec 32 := 0#32
  ![v1093.toNat, 0]

def k0_chk278 (v1093 : BitVec 32) : Prop :=
  (∀ a, (k0_off676 v1093) a + S1x64.size a ≤ S1000000x64.size a)
instance k0_chk278.dec : ∀ (v1093 : BitVec 32), Decidable (k0_chk278 v1093) := fun v1093 => decidable_of_iff' _ (Iff.of_eq (k0_chk278.eq_1 v1093))
theorem k0_off676_inb : ∀ (v1093 : BitVec 32) (k0_hw278 : k0_chk278 v1093), ∀ a, (k0_off676 v1093) a + S1x64.size a ≤ S1000000x64.size a := fun v1093 k0_hw278 => k0_hw278

def k0_off677 (k0_t7 : Fin k0_t7_loop.trips) (c0_i32_632 : BitVec 32) : Fin 2 → Nat :=
  let c0_i32_29 : BitVec 32 := 0#32
  let c1_i32_31 : BitVec 32 := 1#32
  let arg13 : BitVec 32 := Scf.iv c0_i32_29 c1_i32_31 k0_t7
  let c16_i32_626 : BitVec 32 := 16#32
  let v1080 : BitVec 32 := Scalar.muli arg13 c16_i32_626
  let c14_i32 : BitVec 32 := 14#32
  let v1081 : BitVec 32 := Scalar.addi v1080 c14_i32
  let c5_i32_631 : BitVec 32 := 5#32
  let v1094 : BitVec 32 := Scalar.muli v1081 c5_i32_631
  let v1095 : BitVec 32 := Scalar.addi v1094 c0_i32_632
  let c0_i32_635 : BitVec 32 := 0#32
  ![v1095.toNat, 0]
def k0_off678 (v1105 : BitVec 32) : Fin 2 → Nat :=
  let c0_i32_640 : BitVec 32 := 0#32
  ![v1105.toNat, 0]

def k0_chk279 (v1105 : BitVec 32) : Prop :=
  (∀ a, (k0_off678 v1105) a + S1x64.size a ≤ S1000000x64.size a)
instance k0_chk279.dec : ∀ (v1105 : BitVec 32), Decidable (k0_chk279 v1105) := fun v1105 => decidable_of_iff' _ (Iff.of_eq (k0_chk279.eq_1 v1105))
theorem k0_off678_inb : ∀ (v1105 : BitVec 32) (k0_hw279 : k0_chk279 v1105), ∀ a, (k0_off678 v1105) a + S1x64.size a ≤ S1000000x64.size a := fun v1105 k0_hw279 => k0_hw279

def k0_off679 (k0_t7 : Fin k0_t7_loop.trips) (c1_i32_638 : BitVec 32) : Fin 2 → Nat :=
  let c0_i32_29 : BitVec 32 := 0#32
  let c1_i32_31 : BitVec 32 := 1#32
  let arg13 : BitVec 32 := Scf.iv c0_i32_29 c1_i32_31 k0_t7
  let c16_i32_626 : BitVec 32 := 16#32
  let v1080 : BitVec 32 := Scalar.muli arg13 c16_i32_626
  let c14_i32 : BitVec 32 := 14#32
  let v1081 : BitVec 32 := Scalar.addi v1080 c14_i32
  let c5_i32_637 : BitVec 32 := 5#32
  let v1106 : BitVec 32 := Scalar.muli v1081 c5_i32_637
  let v1107 : BitVec 32 := Scalar.addi v1106 c1_i32_638
  let c0_i32_641 : BitVec 32 := 0#32
  ![v1107.toNat, 0]
def k0_off680 (v1117 : BitVec 32) : Fin 2 → Nat :=
  let c0_i32_646 : BitVec 32 := 0#32
  ![v1117.toNat, 0]

def k0_chk280 (v1117 : BitVec 32) : Prop :=
  (∀ a, (k0_off680 v1117) a + S1x64.size a ≤ S1000000x64.size a)
instance k0_chk280.dec : ∀ (v1117 : BitVec 32), Decidable (k0_chk280 v1117) := fun v1117 => decidable_of_iff' _ (Iff.of_eq (k0_chk280.eq_1 v1117))
theorem k0_off680_inb : ∀ (v1117 : BitVec 32) (k0_hw280 : k0_chk280 v1117), ∀ a, (k0_off680 v1117) a + S1x64.size a ≤ S1000000x64.size a := fun v1117 k0_hw280 => k0_hw280

def k0_off681 (k0_t7 : Fin k0_t7_loop.trips) (c2_i32_644 : BitVec 32) : Fin 2 → Nat :=
  let c0_i32_29 : BitVec 32 := 0#32
  let c1_i32_31 : BitVec 32 := 1#32
  let arg13 : BitVec 32 := Scf.iv c0_i32_29 c1_i32_31 k0_t7
  let c16_i32_626 : BitVec 32 := 16#32
  let v1080 : BitVec 32 := Scalar.muli arg13 c16_i32_626
  let c14_i32 : BitVec 32 := 14#32
  let v1081 : BitVec 32 := Scalar.addi v1080 c14_i32
  let c5_i32_643 : BitVec 32 := 5#32
  let v1118 : BitVec 32 := Scalar.muli v1081 c5_i32_643
  let v1119 : BitVec 32 := Scalar.addi v1118 c2_i32_644
  let c0_i32_647 : BitVec 32 := 0#32
  ![v1119.toNat, 0]
def k0_off682 (v1129 : BitVec 32) : Fin 2 → Nat :=
  let c0_i32_652 : BitVec 32 := 0#32
  ![v1129.toNat, 0]

def k0_chk281 (v1129 : BitVec 32) : Prop :=
  (∀ a, (k0_off682 v1129) a + S1x64.size a ≤ S1000000x64.size a)
instance k0_chk281.dec : ∀ (v1129 : BitVec 32), Decidable (k0_chk281 v1129) := fun v1129 => decidable_of_iff' _ (Iff.of_eq (k0_chk281.eq_1 v1129))
theorem k0_off682_inb : ∀ (v1129 : BitVec 32) (k0_hw281 : k0_chk281 v1129), ∀ a, (k0_off682 v1129) a + S1x64.size a ≤ S1000000x64.size a := fun v1129 k0_hw281 => k0_hw281

def k0_off683 (k0_t7 : Fin k0_t7_loop.trips) (c3_i32_650 : BitVec 32) : Fin 2 → Nat :=
  let c0_i32_29 : BitVec 32 := 0#32
  let c1_i32_31 : BitVec 32 := 1#32
  let arg13 : BitVec 32 := Scf.iv c0_i32_29 c1_i32_31 k0_t7
  let c16_i32_626 : BitVec 32 := 16#32
  let v1080 : BitVec 32 := Scalar.muli arg13 c16_i32_626
  let c14_i32 : BitVec 32 := 14#32
  let v1081 : BitVec 32 := Scalar.addi v1080 c14_i32
  let c5_i32_649 : BitVec 32 := 5#32
  let v1130 : BitVec 32 := Scalar.muli v1081 c5_i32_649
  let v1131 : BitVec 32 := Scalar.addi v1130 c3_i32_650
  let c0_i32_653 : BitVec 32 := 0#32
  ![v1131.toNat, 0]
def k0_off684 (v1141 : BitVec 32) : Fin 2 → Nat :=
  let c0_i32_658 : BitVec 32 := 0#32
  ![v1141.toNat, 0]

def k0_chk282 (v1141 : BitVec 32) : Prop :=
  (∀ a, (k0_off684 v1141) a + S1x64.size a ≤ S1000000x64.size a)
instance k0_chk282.dec : ∀ (v1141 : BitVec 32), Decidable (k0_chk282 v1141) := fun v1141 => decidable_of_iff' _ (Iff.of_eq (k0_chk282.eq_1 v1141))
theorem k0_off684_inb : ∀ (v1141 : BitVec 32) (k0_hw282 : k0_chk282 v1141), ∀ a, (k0_off684 v1141) a + S1x64.size a ≤ S1000000x64.size a := fun v1141 k0_hw282 => k0_hw282

def k0_off685 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_626 : BitVec 32 := 16#32
  let v1080 : BitVec 32 := Scalar.muli arg13 c16_i32_626
  let c14_i32 : BitVec 32 := 14#32
  let v1081 : BitVec 32 := Scalar.addi v1080 c14_i32
  let c5_i32_655 : BitVec 32 := 5#32
  let v1142 : BitVec 32 := Scalar.muli v1081 c5_i32_655
  let c4_i32_656 : BitVec 32 := 4#32
  let v1143 : BitVec 32 := Scalar.addi v1142 c4_i32_656
  let c0_i32_659 : BitVec 32 := 0#32
  ![v1143.toNat, 0]
def k0_off686 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_661 : BitVec 32 := 16#32
  let v1152 : BitVec 32 := Scalar.muli arg13 c16_i32_661
  let c15_i32 : BitVec 32 := 15#32
  let v1153 : BitVec 32 := Scalar.addi v1152 c15_i32
  let c0_i32_662 : BitVec 32 := 0#32
  ![v1153.toNat, 0]
def k0_off687 (v1155 : BitVec 32) : Fin 2 → Nat :=
  let c0_i32_663 : BitVec 32 := 0#32
  ![v1155.toNat, 0]

def k0_chk283 (v1155 : BitVec 32) : Prop :=
  (∀ a, (k0_off687 v1155) a + S1x64.size a ≤ S1000000x64.size a)
instance k0_chk283.dec : ∀ (v1155 : BitVec 32), Decidable (k0_chk283 v1155) := fun v1155 => decidable_of_iff' _ (Iff.of_eq (k0_chk283.eq_1 v1155))
theorem k0_off687_inb : ∀ (v1155 : BitVec 32) (k0_hw283 : k0_chk283 v1155), ∀ a, (k0_off687 v1155) a + S1x64.size a ≤ S1000000x64.size a := fun v1155 k0_hw283 => k0_hw283

def k0_off688 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_661 : BitVec 32 := 16#32
  let v1152 : BitVec 32 := Scalar.muli arg13 c16_i32_661
  let c15_i32 : BitVec 32 := 15#32
  let v1153 : BitVec 32 := Scalar.addi v1152 c15_i32
  let c0_i32_664 : BitVec 32 := 0#32
  ![v1153.toNat, 0]
def k0_off689 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_661 : BitVec 32 := 16#32
  let v1152 : BitVec 32 := Scalar.muli arg13 c16_i32_661
  let c15_i32 : BitVec 32 := 15#32
  let v1153 : BitVec 32 := Scalar.addi v1152 c15_i32
  let c5_i32_666 : BitVec 32 := 5#32
  let v1166 : BitVec 32 := Scalar.muli v1153 c5_i32_666
  let c0_i32_667 : BitVec 32 := 0#32
  let v1167 : BitVec 32 := Scalar.addi v1166 c0_i32_667
  let c0_i32_668 : BitVec 32 := 0#32
  ![v1167.toNat, 0]
def k0_off690 (v1165 : BitVec 32) : Fin 2 → Nat :=
  let c0_i32_669 : BitVec 32 := 0#32
  ![v1165.toNat, 0]

def k0_chk284 (v1165 : BitVec 32) : Prop :=
  (∀ a, (k0_off690 v1165) a + S1x64.size a ≤ S1000000x64.size a)
instance k0_chk284.dec : ∀ (v1165 : BitVec 32), Decidable (k0_chk284 v1165) := fun v1165 => decidable_of_iff' _ (Iff.of_eq (k0_chk284.eq_1 v1165))
theorem k0_off690_inb : ∀ (v1165 : BitVec 32) (k0_hw284 : k0_chk284 v1165), ∀ a, (k0_off690 v1165) a + S1x64.size a ≤ S1000000x64.size a := fun v1165 k0_hw284 => k0_hw284

def k0_off691 (k0_t7 : Fin k0_t7_loop.trips) (c0_i32_667 : BitVec 32) : Fin 2 → Nat :=
  let c0_i32_29 : BitVec 32 := 0#32
  let c1_i32_31 : BitVec 32 := 1#32
  let arg13 : BitVec 32 := Scf.iv c0_i32_29 c1_i32_31 k0_t7
  let c16_i32_661 : BitVec 32 := 16#32
  let v1152 : BitVec 32 := Scalar.muli arg13 c16_i32_661
  let c15_i32 : BitVec 32 := 15#32
  let v1153 : BitVec 32 := Scalar.addi v1152 c15_i32
  let c5_i32_666 : BitVec 32 := 5#32
  let v1166 : BitVec 32 := Scalar.muli v1153 c5_i32_666
  let v1167 : BitVec 32 := Scalar.addi v1166 c0_i32_667
  let c0_i32_670 : BitVec 32 := 0#32
  ![v1167.toNat, 0]
def k0_off692 (v1177 : BitVec 32) : Fin 2 → Nat :=
  let c0_i32_675 : BitVec 32 := 0#32
  ![v1177.toNat, 0]

def k0_chk285 (v1177 : BitVec 32) : Prop :=
  (∀ a, (k0_off692 v1177) a + S1x64.size a ≤ S1000000x64.size a)
instance k0_chk285.dec : ∀ (v1177 : BitVec 32), Decidable (k0_chk285 v1177) := fun v1177 => decidable_of_iff' _ (Iff.of_eq (k0_chk285.eq_1 v1177))
theorem k0_off692_inb : ∀ (v1177 : BitVec 32) (k0_hw285 : k0_chk285 v1177), ∀ a, (k0_off692 v1177) a + S1x64.size a ≤ S1000000x64.size a := fun v1177 k0_hw285 => k0_hw285

def k0_off693 (k0_t7 : Fin k0_t7_loop.trips) (c1_i32_673 : BitVec 32) : Fin 2 → Nat :=
  let c0_i32_29 : BitVec 32 := 0#32
  let c1_i32_31 : BitVec 32 := 1#32
  let arg13 : BitVec 32 := Scf.iv c0_i32_29 c1_i32_31 k0_t7
  let c16_i32_661 : BitVec 32 := 16#32
  let v1152 : BitVec 32 := Scalar.muli arg13 c16_i32_661
  let c15_i32 : BitVec 32 := 15#32
  let v1153 : BitVec 32 := Scalar.addi v1152 c15_i32
  let c5_i32_672 : BitVec 32 := 5#32
  let v1178 : BitVec 32 := Scalar.muli v1153 c5_i32_672
  let v1179 : BitVec 32 := Scalar.addi v1178 c1_i32_673
  let c0_i32_676 : BitVec 32 := 0#32
  ![v1179.toNat, 0]
def k0_off694 (v1189 : BitVec 32) : Fin 2 → Nat :=
  let c0_i32_681 : BitVec 32 := 0#32
  ![v1189.toNat, 0]

def k0_chk286 (v1189 : BitVec 32) : Prop :=
  (∀ a, (k0_off694 v1189) a + S1x64.size a ≤ S1000000x64.size a)
instance k0_chk286.dec : ∀ (v1189 : BitVec 32), Decidable (k0_chk286 v1189) := fun v1189 => decidable_of_iff' _ (Iff.of_eq (k0_chk286.eq_1 v1189))
theorem k0_off694_inb : ∀ (v1189 : BitVec 32) (k0_hw286 : k0_chk286 v1189), ∀ a, (k0_off694 v1189) a + S1x64.size a ≤ S1000000x64.size a := fun v1189 k0_hw286 => k0_hw286

def k0_off695 (k0_t7 : Fin k0_t7_loop.trips) (c2_i32_679 : BitVec 32) : Fin 2 → Nat :=
  let c0_i32_29 : BitVec 32 := 0#32
  let c1_i32_31 : BitVec 32 := 1#32
  let arg13 : BitVec 32 := Scf.iv c0_i32_29 c1_i32_31 k0_t7
  let c16_i32_661 : BitVec 32 := 16#32
  let v1152 : BitVec 32 := Scalar.muli arg13 c16_i32_661
  let c15_i32 : BitVec 32 := 15#32
  let v1153 : BitVec 32 := Scalar.addi v1152 c15_i32
  let c5_i32_678 : BitVec 32 := 5#32
  let v1190 : BitVec 32 := Scalar.muli v1153 c5_i32_678
  let v1191 : BitVec 32 := Scalar.addi v1190 c2_i32_679
  let c0_i32_682 : BitVec 32 := 0#32
  ![v1191.toNat, 0]
def k0_off696 (v1201 : BitVec 32) : Fin 2 → Nat :=
  let c0_i32_687 : BitVec 32 := 0#32
  ![v1201.toNat, 0]

def k0_chk287 (v1201 : BitVec 32) : Prop :=
  (∀ a, (k0_off696 v1201) a + S1x64.size a ≤ S1000000x64.size a)
instance k0_chk287.dec : ∀ (v1201 : BitVec 32), Decidable (k0_chk287 v1201) := fun v1201 => decidable_of_iff' _ (Iff.of_eq (k0_chk287.eq_1 v1201))
theorem k0_off696_inb : ∀ (v1201 : BitVec 32) (k0_hw287 : k0_chk287 v1201), ∀ a, (k0_off696 v1201) a + S1x64.size a ≤ S1000000x64.size a := fun v1201 k0_hw287 => k0_hw287

def k0_off697 (k0_t7 : Fin k0_t7_loop.trips) (c3_i32_685 : BitVec 32) : Fin 2 → Nat :=
  let c0_i32_29 : BitVec 32 := 0#32
  let c1_i32_31 : BitVec 32 := 1#32
  let arg13 : BitVec 32 := Scf.iv c0_i32_29 c1_i32_31 k0_t7
  let c16_i32_661 : BitVec 32 := 16#32
  let v1152 : BitVec 32 := Scalar.muli arg13 c16_i32_661
  let c15_i32 : BitVec 32 := 15#32
  let v1153 : BitVec 32 := Scalar.addi v1152 c15_i32
  let c5_i32_684 : BitVec 32 := 5#32
  let v1202 : BitVec 32 := Scalar.muli v1153 c5_i32_684
  let v1203 : BitVec 32 := Scalar.addi v1202 c3_i32_685
  let c0_i32_688 : BitVec 32 := 0#32
  ![v1203.toNat, 0]
def k0_off698 (v1213 : BitVec 32) : Fin 2 → Nat :=
  let c0_i32_693 : BitVec 32 := 0#32
  ![v1213.toNat, 0]

def k0_chk288 (v1213 : BitVec 32) : Prop :=
  (∀ a, (k0_off698 v1213) a + S1x64.size a ≤ S1000000x64.size a)
instance k0_chk288.dec : ∀ (v1213 : BitVec 32), Decidable (k0_chk288 v1213) := fun v1213 => decidable_of_iff' _ (Iff.of_eq (k0_chk288.eq_1 v1213))
theorem k0_off698_inb : ∀ (v1213 : BitVec 32) (k0_hw288 : k0_chk288 v1213), ∀ a, (k0_off698 v1213) a + S1x64.size a ≤ S1000000x64.size a := fun v1213 k0_hw288 => k0_hw288

def k0_off699 (k0_t7 : Fin k0_t7_loop.trips) : Fin 2 → Nat :=
  let c0_i32_29 : BitVec 32 := 0#32
  let c1_i32_31 : BitVec 32 := 1#32
  let arg13 : BitVec 32 := Scf.iv c0_i32_29 c1_i32_31 k0_t7
  let c16_i32_661 : BitVec 32 := 16#32
  let v1152 : BitVec 32 := Scalar.muli arg13 c16_i32_661
  let c15_i32 : BitVec 32 := 15#32
  let v1153 : BitVec 32 := Scalar.addi v1152 c15_i32
  let c5_i32_690 : BitVec 32 := 5#32
  let v1214 : BitVec 32 := Scalar.muli v1153 c5_i32_690
  let c4_i32_691 : BitVec 32 := 4#32
  let v1215 : BitVec 32 := Scalar.addi v1214 c4_i32_691
  let c0_i32_694 : BitVec 32 := 0#32
  ![v1215.toNat, 0]
@[reducible] def k0_t8_loop : Scf.Loop 32 :=
  let c0_i32_34 : BitVec 32 := 0#32
  let c64_i32_35 : BitVec 32 := 64#32
  let v13 : BitVec 32 := Scalar.addi c0_i32_34 c64_i32_35
  let c1_i32_36 : BitVec 32 := 1#32
  ⟨c0_i32_34, v13, c1_i32_36⟩
@[reducible] def k0_t9_loop : Scf.Loop 32 :=
  let c0_i32_39 : BitVec 32 := 0#32
  let c64_i32_40 : BitVec 32 := 64#32
  let v14 : BitVec 32 := Scalar.addi c0_i32_39 c64_i32_40
  let c1_i32_41 : BitVec 32 := 1#32
  ⟨c0_i32_39, v14, c1_i32_41⟩
def k0_off700 (k0_t9 : Fin k0_t9_loop.trips) : Fin 2 → Nat :=
  let c0_i32_39 : BitVec 32 := 0#32
  let c1_i32_41 : BitVec 32 := 1#32
  let arg13 : BitVec 32 := Scf.iv c0_i32_39 c1_i32_41 k0_t9
  let v37 : Index := Scalar.indexCast arg13
  let c0 : Index := 0#32
  ![v37.toNat, 0]
def k0_off701 (k0_t9 : Fin k0_t9_loop.trips) : Fin 2 → Nat :=
  let c0_i32_39 : BitVec 32 := 0#32
  let c1_i32_41 : BitVec 32 := 1#32
  let arg13 : BitVec 32 := Scf.iv c0_i32_39 c1_i32_41 k0_t9
  let v40 : Index := Scalar.indexCast arg13
  let c16 : Index := 16#32
  ![v40.toNat, 16]
def k0_off702 (k0_t9 : Fin k0_t9_loop.trips) : Fin 2 → Nat :=
  let c0_i32_39 : BitVec 32 := 0#32
  let c1_i32_41 : BitVec 32 := 1#32
  let arg13 : BitVec 32 := Scf.iv c0_i32_39 c1_i32_41 k0_t9
  let v43 : Index := Scalar.indexCast arg13
  let c32 : Index := 32#32
  ![v43.toNat, 32]
def k0_off703 (k0_t9 : Fin k0_t9_loop.trips) : Fin 2 → Nat :=
  let c0_i32_39 : BitVec 32 := 0#32
  let c1_i32_41 : BitVec 32 := 1#32
  let arg13 : BitVec 32 := Scf.iv c0_i32_39 c1_i32_41 k0_t9
  let v46 : Index := Scalar.indexCast arg13
  let c48 : Index := 48#32
  ![v46.toNat, 48]
def k0_off704 (k0_t9 : Fin k0_t9_loop.trips) (c0_i32_121 : BitVec 32) : Fin 2 → Nat :=
  let c0_i32_39 : BitVec 32 := 0#32
  let c1_i32_41 : BitVec 32 := 1#32
  let arg13 : BitVec 32 := Scf.iv c0_i32_39 c1_i32_41 k0_t9
  let c5_i32_120 : BitVec 32 := 5#32
  let v51 : BitVec 32 := Scalar.muli arg13 c5_i32_120
  let v52 : BitVec 32 := Scalar.addi v51 c0_i32_121
  let v53 : Index := Scalar.indexCast v52
  let c0_122 : Index := 0#32
  ![v53.toNat, 0]
def k0_off705 (k0_t9 : Fin k0_t9_loop.trips) (c0_i32_121 : BitVec 32) : Fin 2 → Nat :=
  let c0_i32_39 : BitVec 32 := 0#32
  let c1_i32_41 : BitVec 32 := 1#32
  let arg13 : BitVec 32 := Scf.iv c0_i32_39 c1_i32_41 k0_t9
  let c5_i32_120 : BitVec 32 := 5#32
  let v51 : BitVec 32 := Scalar.muli arg13 c5_i32_120
  let v52 : BitVec 32 := Scalar.addi v51 c0_i32_121
  let v57 : Index := Scalar.indexCast v52
  let c16_123 : Index := 16#32
  ![v57.toNat, 16]
def k0_off706 (k0_t9 : Fin k0_t9_loop.trips) (c0_i32_121 : BitVec 32) : Fin 2 → Nat :=
  let c0_i32_39 : BitVec 32 := 0#32
  let c1_i32_41 : BitVec 32 := 1#32
  let arg13 : BitVec 32 := Scf.iv c0_i32_39 c1_i32_41 k0_t9
  let c5_i32_120 : BitVec 32 := 5#32
  let v51 : BitVec 32 := Scalar.muli arg13 c5_i32_120
  let v52 : BitVec 32 := Scalar.addi v51 c0_i32_121
  let v62 : Index := Scalar.indexCast v52
  let c32_124 : Index := 32#32
  ![v62.toNat, 32]
def k0_off707 (k0_t9 : Fin k0_t9_loop.trips) (c0_i32_121 : BitVec 32) : Fin 2 → Nat :=
  let c0_i32_39 : BitVec 32 := 0#32
  let c1_i32_41 : BitVec 32 := 1#32
  let arg13 : BitVec 32 := Scf.iv c0_i32_39 c1_i32_41 k0_t9
  let c5_i32_120 : BitVec 32 := 5#32
  let v51 : BitVec 32 := Scalar.muli arg13 c5_i32_120
  let v52 : BitVec 32 := Scalar.addi v51 c0_i32_121
  let v67 : Index := Scalar.indexCast v52
  let c48_125 : Index := 48#32
  ![v67.toNat, 48]
def k0_off708 (k0_t9 : Fin k0_t9_loop.trips) (c0_i32_126 : BitVec 32) : Fin 1 → Nat :=
  let c128_i32_118 : BitVec 32 := 128#32
  let c0_i32_39 : BitVec 32 := 0#32
  let c1_i32_41 : BitVec 32 := 1#32
  let arg13 : BitVec 32 := Scf.iv c0_i32_39 c1_i32_41 k0_t9
  let v49 : BitVec 32 := Scalar.addi c128_i32_118 arg13
  let c80_i32_119 : BitVec 32 := 80#32
  let v50 : BitVec 32 := Scalar.muli v49 c80_i32_119
  let v74 : BitVec 32 := Scalar.addi v50 c0_i32_126
  let v75 : Index := Scalar.indexCast v74
  ![v75.toNat]
@[reducible] def k0_t10_loop : Scf.Loop 32 :=
  let c0_i32_44 : BitVec 32 := 0#32
  let c4_i32_45 : BitVec 32 := 4#32
  let v16 : BitVec 32 := Scalar.addi c0_i32_44 c4_i32_45
  let c1_i32_46 : BitVec 32 := 1#32
  ⟨c0_i32_44, v16, c1_i32_46⟩
def k0_off709 (k0_t10 : Fin k0_t10_loop.trips) : Fin 1 → Nat :=
  let c192_i32_118 : BitVec 32 := 192#32
  let c0_i32_44 : BitVec 32 := 0#32
  let c1_i32_46 : BitVec 32 := 1#32
  let arg13 : BitVec 32 := Scf.iv c0_i32_44 c1_i32_46 k0_t10
  let c16_i32 : BitVec 32 := 16#32
  let v37 : BitVec 32 := Scalar.muli arg13 c16_i32
  let v38 : BitVec 32 := Scalar.addi c192_i32_118 v37
  let v39 : Index := Scalar.indexCast v38
  ![v39.toNat]
def k0_off710 (k0_t10 : Fin k0_t10_loop.trips) (c0_i32_120 : BitVec 32) : Fin 1 → Nat :=
  let c960_i32 : BitVec 32 := 960#32
  let c0_i32_44 : BitVec 32 := 0#32
  let c1_i32_46 : BitVec 32 := 1#32
  let arg13 : BitVec 32 := Scf.iv c0_i32_44 c1_i32_46 k0_t10
  let c80_i32_119 : BitVec 32 := 80#32
  let v42 : BitVec 32 := Scalar.muli arg13 c80_i32_119
  let v43 : BitVec 32 := Scalar.addi c960_i32 v42
  let v44 : BitVec 32 := Scalar.addi v43 c0_i32_120
  let v45 : Index := Scalar.indexCast v44
  ![v45.toNat]
def k0_off711 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_131 : BitVec 32 := 16#32
  let v72 : BitVec 32 := Scalar.muli arg13 c16_i32_131
  let c0_i32_132 : BitVec 32 := 0#32
  let v73 : BitVec 32 := Scalar.addi v72 c0_i32_132
  let c0_i32_133 : BitVec 32 := 0#32
  ![v73.toNat, 0]
def k0_off712 (v75 : BitVec 32) : Fin 2 → Nat :=
  let c0_i32_134 : BitVec 32 := 0#32
  ![v75.toNat, 0]

def k0_chk289 (v75 : BitVec 32) : Prop :=
  (∀ a, (k0_off712 v75) a + S1x64.size a ≤ S1000000x64.size a)
instance k0_chk289.dec : ∀ (v75 : BitVec 32), Decidable (k0_chk289 v75) := fun v75 => decidable_of_iff' _ (Iff.of_eq (k0_chk289.eq_1 v75))
theorem k0_off712_inb : ∀ (v75 : BitVec 32) (k0_hw289 : k0_chk289 v75), ∀ a, (k0_off712 v75) a + S1x64.size a ≤ S1000000x64.size a := fun v75 k0_hw289 => k0_hw289

def k0_off713 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_131 : BitVec 32 := 16#32
  let v72 : BitVec 32 := Scalar.muli arg13 c16_i32_131
  let c0_i32_132 : BitVec 32 := 0#32
  let v73 : BitVec 32 := Scalar.addi v72 c0_i32_132
  let c0_i32_135 : BitVec 32 := 0#32
  ![v73.toNat, 0]
def k0_off714 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_131 : BitVec 32 := 16#32
  let v72 : BitVec 32 := Scalar.muli arg13 c16_i32_131
  let c0_i32_132 : BitVec 32 := 0#32
  let v73 : BitVec 32 := Scalar.addi v72 c0_i32_132
  let c5_i32_137 : BitVec 32 := 5#32
  let v86 : BitVec 32 := Scalar.muli v73 c5_i32_137
  let c0_i32_138 : BitVec 32 := 0#32
  let v87 : BitVec 32 := Scalar.addi v86 c0_i32_138
  let c0_i32_139 : BitVec 32 := 0#32
  ![v87.toNat, 0]
def k0_off715 (v85 : BitVec 32) : Fin 2 → Nat :=
  let c0_i32_140 : BitVec 32 := 0#32
  ![v85.toNat, 0]

def k0_chk290 (v85 : BitVec 32) : Prop :=
  (∀ a, (k0_off715 v85) a + S1x64.size a ≤ S1000000x64.size a)
instance k0_chk290.dec : ∀ (v85 : BitVec 32), Decidable (k0_chk290 v85) := fun v85 => decidable_of_iff' _ (Iff.of_eq (k0_chk290.eq_1 v85))
theorem k0_off715_inb : ∀ (v85 : BitVec 32) (k0_hw290 : k0_chk290 v85), ∀ a, (k0_off715 v85) a + S1x64.size a ≤ S1000000x64.size a := fun v85 k0_hw290 => k0_hw290

def k0_off716 (k0_t10 : Fin k0_t10_loop.trips) (c0_i32_138 : BitVec 32) : Fin 2 → Nat :=
  let c0_i32_44 : BitVec 32 := 0#32
  let c1_i32_46 : BitVec 32 := 1#32
  let arg13 : BitVec 32 := Scf.iv c0_i32_44 c1_i32_46 k0_t10
  let c16_i32_131 : BitVec 32 := 16#32
  let v72 : BitVec 32 := Scalar.muli arg13 c16_i32_131
  let c0_i32_132 : BitVec 32 := 0#32
  let v73 : BitVec 32 := Scalar.addi v72 c0_i32_132
  let c5_i32_137 : BitVec 32 := 5#32
  let v86 : BitVec 32 := Scalar.muli v73 c5_i32_137
  let v87 : BitVec 32 := Scalar.addi v86 c0_i32_138
  let c0_i32_141 : BitVec 32 := 0#32
  ![v87.toNat, 0]
def k0_off717 (v97 : BitVec 32) : Fin 2 → Nat :=
  let c0_i32_146 : BitVec 32 := 0#32
  ![v97.toNat, 0]

def k0_chk291 (v97 : BitVec 32) : Prop :=
  (∀ a, (k0_off717 v97) a + S1x64.size a ≤ S1000000x64.size a)
instance k0_chk291.dec : ∀ (v97 : BitVec 32), Decidable (k0_chk291 v97) := fun v97 => decidable_of_iff' _ (Iff.of_eq (k0_chk291.eq_1 v97))
theorem k0_off717_inb : ∀ (v97 : BitVec 32) (k0_hw291 : k0_chk291 v97), ∀ a, (k0_off717 v97) a + S1x64.size a ≤ S1000000x64.size a := fun v97 k0_hw291 => k0_hw291

def k0_off718 (k0_t10 : Fin k0_t10_loop.trips) (c1_i32_144 : BitVec 32) : Fin 2 → Nat :=
  let c0_i32_44 : BitVec 32 := 0#32
  let c1_i32_46 : BitVec 32 := 1#32
  let arg13 : BitVec 32 := Scf.iv c0_i32_44 c1_i32_46 k0_t10
  let c16_i32_131 : BitVec 32 := 16#32
  let v72 : BitVec 32 := Scalar.muli arg13 c16_i32_131
  let c0_i32_132 : BitVec 32 := 0#32
  let v73 : BitVec 32 := Scalar.addi v72 c0_i32_132
  let c5_i32_143 : BitVec 32 := 5#32
  let v98 : BitVec 32 := Scalar.muli v73 c5_i32_143
  let v99 : BitVec 32 := Scalar.addi v98 c1_i32_144
  let c0_i32_147 : BitVec 32 := 0#32
  ![v99.toNat, 0]
def k0_off719 (v109 : BitVec 32) : Fin 2 → Nat :=
  let c0_i32_152 : BitVec 32 := 0#32
  ![v109.toNat, 0]

def k0_chk292 (v109 : BitVec 32) : Prop :=
  (∀ a, (k0_off719 v109) a + S1x64.size a ≤ S1000000x64.size a)
instance k0_chk292.dec : ∀ (v109 : BitVec 32), Decidable (k0_chk292 v109) := fun v109 => decidable_of_iff' _ (Iff.of_eq (k0_chk292.eq_1 v109))
theorem k0_off719_inb : ∀ (v109 : BitVec 32) (k0_hw292 : k0_chk292 v109), ∀ a, (k0_off719 v109) a + S1x64.size a ≤ S1000000x64.size a := fun v109 k0_hw292 => k0_hw292

def k0_off720 (k0_t10 : Fin k0_t10_loop.trips) (c2_i32_150 : BitVec 32) : Fin 2 → Nat :=
  let c0_i32_44 : BitVec 32 := 0#32
  let c1_i32_46 : BitVec 32 := 1#32
  let arg13 : BitVec 32 := Scf.iv c0_i32_44 c1_i32_46 k0_t10
  let c16_i32_131 : BitVec 32 := 16#32
  let v72 : BitVec 32 := Scalar.muli arg13 c16_i32_131
  let c0_i32_132 : BitVec 32 := 0#32
  let v73 : BitVec 32 := Scalar.addi v72 c0_i32_132
  let c5_i32_149 : BitVec 32 := 5#32
  let v110 : BitVec 32 := Scalar.muli v73 c5_i32_149
  let v111 : BitVec 32 := Scalar.addi v110 c2_i32_150
  let c0_i32_153 : BitVec 32 := 0#32
  ![v111.toNat, 0]
def k0_off721 (v121 : BitVec 32) : Fin 2 → Nat :=
  let c0_i32_157 : BitVec 32 := 0#32
  ![v121.toNat, 0]

def k0_chk293 (v121 : BitVec 32) : Prop :=
  (∀ a, (k0_off721 v121) a + S1x64.size a ≤ S1000000x64.size a)
instance k0_chk293.dec : ∀ (v121 : BitVec 32), Decidable (k0_chk293 v121) := fun v121 => decidable_of_iff' _ (Iff.of_eq (k0_chk293.eq_1 v121))
theorem k0_off721_inb : ∀ (v121 : BitVec 32) (k0_hw293 : k0_chk293 v121), ∀ a, (k0_off721 v121) a + S1x64.size a ≤ S1000000x64.size a := fun v121 k0_hw293 => k0_hw293

def k0_off722 (k0_t10 : Fin k0_t10_loop.trips) (c3_i32 : BitVec 32) : Fin 2 → Nat :=
  let c0_i32_44 : BitVec 32 := 0#32
  let c1_i32_46 : BitVec 32 := 1#32
  let arg13 : BitVec 32 := Scf.iv c0_i32_44 c1_i32_46 k0_t10
  let c16_i32_131 : BitVec 32 := 16#32
  let v72 : BitVec 32 := Scalar.muli arg13 c16_i32_131
  let c0_i32_132 : BitVec 32 := 0#32
  let v73 : BitVec 32 := Scalar.addi v72 c0_i32_132
  let c5_i32_155 : BitVec 32 := 5#32
  let v122 : BitVec 32 := Scalar.muli v73 c5_i32_155
  let v123 : BitVec 32 := Scalar.addi v122 c3_i32
  let c0_i32_158 : BitVec 32 := 0#32
  ![v123.toNat, 0]
def k0_off723 (v133 : BitVec 32) : Fin 2 → Nat :=
  let c0_i32_163 : BitVec 32 := 0#32
  ![v133.toNat, 0]

def k0_chk294 (v133 : BitVec 32) : Prop :=
  (∀ a, (k0_off723 v133) a + S1x64.size a ≤ S1000000x64.size a)
instance k0_chk294.dec : ∀ (v133 : BitVec 32), Decidable (k0_chk294 v133) := fun v133 => decidable_of_iff' _ (Iff.of_eq (k0_chk294.eq_1 v133))
theorem k0_off723_inb : ∀ (v133 : BitVec 32) (k0_hw294 : k0_chk294 v133), ∀ a, (k0_off723 v133) a + S1x64.size a ≤ S1000000x64.size a := fun v133 k0_hw294 => k0_hw294

def k0_off724 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_131 : BitVec 32 := 16#32
  let v72 : BitVec 32 := Scalar.muli arg13 c16_i32_131
  let c0_i32_132 : BitVec 32 := 0#32
  let v73 : BitVec 32 := Scalar.addi v72 c0_i32_132
  let c5_i32_160 : BitVec 32 := 5#32
  let v134 : BitVec 32 := Scalar.muli v73 c5_i32_160
  let c4_i32_161 : BitVec 32 := 4#32
  let v135 : BitVec 32 := Scalar.addi v134 c4_i32_161
  let c0_i32_164 : BitVec 32 := 0#32
  ![v135.toNat, 0]
def k0_off725 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_166 : BitVec 32 := 16#32
  let v144 : BitVec 32 := Scalar.muli arg13 c16_i32_166
  let c1_i32_167 : BitVec 32 := 1#32
  let v145 : BitVec 32 := Scalar.addi v144 c1_i32_167
  let c0_i32_168 : BitVec 32 := 0#32
  ![v145.toNat, 0]
def k0_off726 (v147 : BitVec 32) : Fin 2 → Nat :=
  let c0_i32_169 : BitVec 32 := 0#32
  ![v147.toNat, 0]

def k0_chk295 (v147 : BitVec 32) : Prop :=
  (∀ a, (k0_off726 v147) a + S1x64.size a ≤ S1000000x64.size a)
instance k0_chk295.dec : ∀ (v147 : BitVec 32), Decidable (k0_chk295 v147) := fun v147 => decidable_of_iff' _ (Iff.of_eq (k0_chk295.eq_1 v147))
theorem k0_off726_inb : ∀ (v147 : BitVec 32) (k0_hw295 : k0_chk295 v147), ∀ a, (k0_off726 v147) a + S1x64.size a ≤ S1000000x64.size a := fun v147 k0_hw295 => k0_hw295

def k0_off727 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_166 : BitVec 32 := 16#32
  let v144 : BitVec 32 := Scalar.muli arg13 c16_i32_166
  let c1_i32_167 : BitVec 32 := 1#32
  let v145 : BitVec 32 := Scalar.addi v144 c1_i32_167
  let c0_i32_170 : BitVec 32 := 0#32
  ![v145.toNat, 0]
def k0_off728 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_166 : BitVec 32 := 16#32
  let v144 : BitVec 32 := Scalar.muli arg13 c16_i32_166
  let c1_i32_167 : BitVec 32 := 1#32
  let v145 : BitVec 32 := Scalar.addi v144 c1_i32_167
  let c5_i32_172 : BitVec 32 := 5#32
  let v158 : BitVec 32 := Scalar.muli v145 c5_i32_172
  let c0_i32_173 : BitVec 32 := 0#32
  let v159 : BitVec 32 := Scalar.addi v158 c0_i32_173
  let c0_i32_174 : BitVec 32 := 0#32
  ![v159.toNat, 0]
def k0_off729 (v157 : BitVec 32) : Fin 2 → Nat :=
  let c0_i32_175 : BitVec 32 := 0#32
  ![v157.toNat, 0]

def k0_chk296 (v157 : BitVec 32) : Prop :=
  (∀ a, (k0_off729 v157) a + S1x64.size a ≤ S1000000x64.size a)
instance k0_chk296.dec : ∀ (v157 : BitVec 32), Decidable (k0_chk296 v157) := fun v157 => decidable_of_iff' _ (Iff.of_eq (k0_chk296.eq_1 v157))
theorem k0_off729_inb : ∀ (v157 : BitVec 32) (k0_hw296 : k0_chk296 v157), ∀ a, (k0_off729 v157) a + S1x64.size a ≤ S1000000x64.size a := fun v157 k0_hw296 => k0_hw296

def k0_off730 (k0_t10 : Fin k0_t10_loop.trips) (c0_i32_173 : BitVec 32) : Fin 2 → Nat :=
  let c0_i32_44 : BitVec 32 := 0#32
  let c1_i32_46 : BitVec 32 := 1#32
  let arg13 : BitVec 32 := Scf.iv c0_i32_44 c1_i32_46 k0_t10
  let c16_i32_166 : BitVec 32 := 16#32
  let v144 : BitVec 32 := Scalar.muli arg13 c16_i32_166
  let c1_i32_167 : BitVec 32 := 1#32
  let v145 : BitVec 32 := Scalar.addi v144 c1_i32_167
  let c5_i32_172 : BitVec 32 := 5#32
  let v158 : BitVec 32 := Scalar.muli v145 c5_i32_172
  let v159 : BitVec 32 := Scalar.addi v158 c0_i32_173
  let c0_i32_176 : BitVec 32 := 0#32
  ![v159.toNat, 0]
def k0_off731 (v169 : BitVec 32) : Fin 2 → Nat :=
  let c0_i32_181 : BitVec 32 := 0#32
  ![v169.toNat, 0]

def k0_chk297 (v169 : BitVec 32) : Prop :=
  (∀ a, (k0_off731 v169) a + S1x64.size a ≤ S1000000x64.size a)
instance k0_chk297.dec : ∀ (v169 : BitVec 32), Decidable (k0_chk297 v169) := fun v169 => decidable_of_iff' _ (Iff.of_eq (k0_chk297.eq_1 v169))
theorem k0_off731_inb : ∀ (v169 : BitVec 32) (k0_hw297 : k0_chk297 v169), ∀ a, (k0_off731 v169) a + S1x64.size a ≤ S1000000x64.size a := fun v169 k0_hw297 => k0_hw297

def k0_off732 (k0_t10 : Fin k0_t10_loop.trips) (c1_i32_179 : BitVec 32) : Fin 2 → Nat :=
  let c0_i32_44 : BitVec 32 := 0#32
  let c1_i32_46 : BitVec 32 := 1#32
  let arg13 : BitVec 32 := Scf.iv c0_i32_44 c1_i32_46 k0_t10
  let c16_i32_166 : BitVec 32 := 16#32
  let v144 : BitVec 32 := Scalar.muli arg13 c16_i32_166
  let c1_i32_167 : BitVec 32 := 1#32
  let v145 : BitVec 32 := Scalar.addi v144 c1_i32_167
  let c5_i32_178 : BitVec 32 := 5#32
  let v170 : BitVec 32 := Scalar.muli v145 c5_i32_178
  let v171 : BitVec 32 := Scalar.addi v170 c1_i32_179
  let c0_i32_182 : BitVec 32 := 0#32
  ![v171.toNat, 0]
def k0_off733 (v181 : BitVec 32) : Fin 2 → Nat :=
  let c0_i32_187 : BitVec 32 := 0#32
  ![v181.toNat, 0]

def k0_chk298 (v181 : BitVec 32) : Prop :=
  (∀ a, (k0_off733 v181) a + S1x64.size a ≤ S1000000x64.size a)
instance k0_chk298.dec : ∀ (v181 : BitVec 32), Decidable (k0_chk298 v181) := fun v181 => decidable_of_iff' _ (Iff.of_eq (k0_chk298.eq_1 v181))
theorem k0_off733_inb : ∀ (v181 : BitVec 32) (k0_hw298 : k0_chk298 v181), ∀ a, (k0_off733 v181) a + S1x64.size a ≤ S1000000x64.size a := fun v181 k0_hw298 => k0_hw298

def k0_off734 (k0_t10 : Fin k0_t10_loop.trips) (c2_i32_185 : BitVec 32) : Fin 2 → Nat :=
  let c0_i32_44 : BitVec 32 := 0#32
  let c1_i32_46 : BitVec 32 := 1#32
  let arg13 : BitVec 32 := Scf.iv c0_i32_44 c1_i32_46 k0_t10
  let c16_i32_166 : BitVec 32 := 16#32
  let v144 : BitVec 32 := Scalar.muli arg13 c16_i32_166
  let c1_i32_167 : BitVec 32 := 1#32
  let v145 : BitVec 32 := Scalar.addi v144 c1_i32_167
  let c5_i32_184 : BitVec 32 := 5#32
  let v182 : BitVec 32 := Scalar.muli v145 c5_i32_184
  let v183 : BitVec 32 := Scalar.addi v182 c2_i32_185
  let c0_i32_188 : BitVec 32 := 0#32
  ![v183.toNat, 0]
def k0_off735 (v193 : BitVec 32) : Fin 2 → Nat :=
  let c0_i32_193 : BitVec 32 := 0#32
  ![v193.toNat, 0]

def k0_chk299 (v193 : BitVec 32) : Prop :=
  (∀ a, (k0_off735 v193) a + S1x64.size a ≤ S1000000x64.size a)
instance k0_chk299.dec : ∀ (v193 : BitVec 32), Decidable (k0_chk299 v193) := fun v193 => decidable_of_iff' _ (Iff.of_eq (k0_chk299.eq_1 v193))
theorem k0_off735_inb : ∀ (v193 : BitVec 32) (k0_hw299 : k0_chk299 v193), ∀ a, (k0_off735 v193) a + S1x64.size a ≤ S1000000x64.size a := fun v193 k0_hw299 => k0_hw299

def k0_off736 (k0_t10 : Fin k0_t10_loop.trips) (c3_i32_191 : BitVec 32) : Fin 2 → Nat :=
  let c0_i32_44 : BitVec 32 := 0#32
  let c1_i32_46 : BitVec 32 := 1#32
  let arg13 : BitVec 32 := Scf.iv c0_i32_44 c1_i32_46 k0_t10
  let c16_i32_166 : BitVec 32 := 16#32
  let v144 : BitVec 32 := Scalar.muli arg13 c16_i32_166
  let c1_i32_167 : BitVec 32 := 1#32
  let v145 : BitVec 32 := Scalar.addi v144 c1_i32_167
  let c5_i32_190 : BitVec 32 := 5#32
  let v194 : BitVec 32 := Scalar.muli v145 c5_i32_190
  let v195 : BitVec 32 := Scalar.addi v194 c3_i32_191
  let c0_i32_194 : BitVec 32 := 0#32
  ![v195.toNat, 0]
def k0_off737 (v205 : BitVec 32) : Fin 2 → Nat :=
  let c0_i32_199 : BitVec 32 := 0#32
  ![v205.toNat, 0]

def k0_chk300 (v205 : BitVec 32) : Prop :=
  (∀ a, (k0_off737 v205) a + S1x64.size a ≤ S1000000x64.size a)
instance k0_chk300.dec : ∀ (v205 : BitVec 32), Decidable (k0_chk300 v205) := fun v205 => decidable_of_iff' _ (Iff.of_eq (k0_chk300.eq_1 v205))
theorem k0_off737_inb : ∀ (v205 : BitVec 32) (k0_hw300 : k0_chk300 v205), ∀ a, (k0_off737 v205) a + S1x64.size a ≤ S1000000x64.size a := fun v205 k0_hw300 => k0_hw300

def k0_off738 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_166 : BitVec 32 := 16#32
  let v144 : BitVec 32 := Scalar.muli arg13 c16_i32_166
  let c1_i32_167 : BitVec 32 := 1#32
  let v145 : BitVec 32 := Scalar.addi v144 c1_i32_167
  let c5_i32_196 : BitVec 32 := 5#32
  let v206 : BitVec 32 := Scalar.muli v145 c5_i32_196
  let c4_i32_197 : BitVec 32 := 4#32
  let v207 : BitVec 32 := Scalar.addi v206 c4_i32_197
  let c0_i32_200 : BitVec 32 := 0#32
  ![v207.toNat, 0]
def k0_off739 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_202 : BitVec 32 := 16#32
  let v216 : BitVec 32 := Scalar.muli arg13 c16_i32_202
  let c2_i32_203 : BitVec 32 := 2#32
  let v217 : BitVec 32 := Scalar.addi v216 c2_i32_203
  let c0_i32_204 : BitVec 32 := 0#32
  ![v217.toNat, 0]
def k0_off740 (v219 : BitVec 32) : Fin 2 → Nat :=
  let c0_i32_205 : BitVec 32 := 0#32
  ![v219.toNat, 0]

def k0_chk301 (v219 : BitVec 32) : Prop :=
  (∀ a, (k0_off740 v219) a + S1x64.size a ≤ S1000000x64.size a)
instance k0_chk301.dec : ∀ (v219 : BitVec 32), Decidable (k0_chk301 v219) := fun v219 => decidable_of_iff' _ (Iff.of_eq (k0_chk301.eq_1 v219))
theorem k0_off740_inb : ∀ (v219 : BitVec 32) (k0_hw301 : k0_chk301 v219), ∀ a, (k0_off740 v219) a + S1x64.size a ≤ S1000000x64.size a := fun v219 k0_hw301 => k0_hw301

def k0_off741 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_202 : BitVec 32 := 16#32
  let v216 : BitVec 32 := Scalar.muli arg13 c16_i32_202
  let c2_i32_203 : BitVec 32 := 2#32
  let v217 : BitVec 32 := Scalar.addi v216 c2_i32_203
  let c0_i32_206 : BitVec 32 := 0#32
  ![v217.toNat, 0]
def k0_off742 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_202 : BitVec 32 := 16#32
  let v216 : BitVec 32 := Scalar.muli arg13 c16_i32_202
  let c2_i32_203 : BitVec 32 := 2#32
  let v217 : BitVec 32 := Scalar.addi v216 c2_i32_203
  let c5_i32_208 : BitVec 32 := 5#32
  let v230 : BitVec 32 := Scalar.muli v217 c5_i32_208
  let c0_i32_209 : BitVec 32 := 0#32
  let v231 : BitVec 32 := Scalar.addi v230 c0_i32_209
  let c0_i32_210 : BitVec 32 := 0#32
  ![v231.toNat, 0]
def k0_off743 (v229 : BitVec 32) : Fin 2 → Nat :=
  let c0_i32_211 : BitVec 32 := 0#32
  ![v229.toNat, 0]

def k0_chk302 (v229 : BitVec 32) : Prop :=
  (∀ a, (k0_off743 v229) a + S1x64.size a ≤ S1000000x64.size a)
instance k0_chk302.dec : ∀ (v229 : BitVec 32), Decidable (k0_chk302 v229) := fun v229 => decidable_of_iff' _ (Iff.of_eq (k0_chk302.eq_1 v229))
theorem k0_off743_inb : ∀ (v229 : BitVec 32) (k0_hw302 : k0_chk302 v229), ∀ a, (k0_off743 v229) a + S1x64.size a ≤ S1000000x64.size a := fun v229 k0_hw302 => k0_hw302

def k0_off744 (k0_t10 : Fin k0_t10_loop.trips) (c0_i32_209 : BitVec 32) : Fin 2 → Nat :=
  let c0_i32_44 : BitVec 32 := 0#32
  let c1_i32_46 : BitVec 32 := 1#32
  let arg13 : BitVec 32 := Scf.iv c0_i32_44 c1_i32_46 k0_t10
  let c16_i32_202 : BitVec 32 := 16#32
  let v216 : BitVec 32 := Scalar.muli arg13 c16_i32_202
  let c2_i32_203 : BitVec 32 := 2#32
  let v217 : BitVec 32 := Scalar.addi v216 c2_i32_203
  let c5_i32_208 : BitVec 32 := 5#32
  let v230 : BitVec 32 := Scalar.muli v217 c5_i32_208
  let v231 : BitVec 32 := Scalar.addi v230 c0_i32_209
  let c0_i32_212 : BitVec 32 := 0#32
  ![v231.toNat, 0]
def k0_off745 (v241 : BitVec 32) : Fin 2 → Nat :=
  let c0_i32_217 : BitVec 32 := 0#32
  ![v241.toNat, 0]

def k0_chk303 (v241 : BitVec 32) : Prop :=
  (∀ a, (k0_off745 v241) a + S1x64.size a ≤ S1000000x64.size a)
instance k0_chk303.dec : ∀ (v241 : BitVec 32), Decidable (k0_chk303 v241) := fun v241 => decidable_of_iff' _ (Iff.of_eq (k0_chk303.eq_1 v241))
theorem k0_off745_inb : ∀ (v241 : BitVec 32) (k0_hw303 : k0_chk303 v241), ∀ a, (k0_off745 v241) a + S1x64.size a ≤ S1000000x64.size a := fun v241 k0_hw303 => k0_hw303

def k0_off746 (k0_t10 : Fin k0_t10_loop.trips) (c1_i32_215 : BitVec 32) : Fin 2 → Nat :=
  let c0_i32_44 : BitVec 32 := 0#32
  let c1_i32_46 : BitVec 32 := 1#32
  let arg13 : BitVec 32 := Scf.iv c0_i32_44 c1_i32_46 k0_t10
  let c16_i32_202 : BitVec 32 := 16#32
  let v216 : BitVec 32 := Scalar.muli arg13 c16_i32_202
  let c2_i32_203 : BitVec 32 := 2#32
  let v217 : BitVec 32 := Scalar.addi v216 c2_i32_203
  let c5_i32_214 : BitVec 32 := 5#32
  let v242 : BitVec 32 := Scalar.muli v217 c5_i32_214
  let v243 : BitVec 32 := Scalar.addi v242 c1_i32_215
  let c0_i32_218 : BitVec 32 := 0#32
  ![v243.toNat, 0]
def k0_off747 (v253 : BitVec 32) : Fin 2 → Nat :=
  let c0_i32_223 : BitVec 32 := 0#32
  ![v253.toNat, 0]

def k0_chk304 (v253 : BitVec 32) : Prop :=
  (∀ a, (k0_off747 v253) a + S1x64.size a ≤ S1000000x64.size a)
instance k0_chk304.dec : ∀ (v253 : BitVec 32), Decidable (k0_chk304 v253) := fun v253 => decidable_of_iff' _ (Iff.of_eq (k0_chk304.eq_1 v253))
theorem k0_off747_inb : ∀ (v253 : BitVec 32) (k0_hw304 : k0_chk304 v253), ∀ a, (k0_off747 v253) a + S1x64.size a ≤ S1000000x64.size a := fun v253 k0_hw304 => k0_hw304

def k0_off748 (k0_t10 : Fin k0_t10_loop.trips) (c2_i32_221 : BitVec 32) : Fin 2 → Nat :=
  let c0_i32_44 : BitVec 32 := 0#32
  let c1_i32_46 : BitVec 32 := 1#32
  let arg13 : BitVec 32 := Scf.iv c0_i32_44 c1_i32_46 k0_t10
  let c16_i32_202 : BitVec 32 := 16#32
  let v216 : BitVec 32 := Scalar.muli arg13 c16_i32_202
  let c2_i32_203 : BitVec 32 := 2#32
  let v217 : BitVec 32 := Scalar.addi v216 c2_i32_203
  let c5_i32_220 : BitVec 32 := 5#32
  let v254 : BitVec 32 := Scalar.muli v217 c5_i32_220
  let v255 : BitVec 32 := Scalar.addi v254 c2_i32_221
  let c0_i32_224 : BitVec 32 := 0#32
  ![v255.toNat, 0]
def k0_off749 (v265 : BitVec 32) : Fin 2 → Nat :=
  let c0_i32_229 : BitVec 32 := 0#32
  ![v265.toNat, 0]

def k0_chk305 (v265 : BitVec 32) : Prop :=
  (∀ a, (k0_off749 v265) a + S1x64.size a ≤ S1000000x64.size a)
instance k0_chk305.dec : ∀ (v265 : BitVec 32), Decidable (k0_chk305 v265) := fun v265 => decidable_of_iff' _ (Iff.of_eq (k0_chk305.eq_1 v265))
theorem k0_off749_inb : ∀ (v265 : BitVec 32) (k0_hw305 : k0_chk305 v265), ∀ a, (k0_off749 v265) a + S1x64.size a ≤ S1000000x64.size a := fun v265 k0_hw305 => k0_hw305

def k0_off750 (k0_t10 : Fin k0_t10_loop.trips) (c3_i32_227 : BitVec 32) : Fin 2 → Nat :=
  let c0_i32_44 : BitVec 32 := 0#32
  let c1_i32_46 : BitVec 32 := 1#32
  let arg13 : BitVec 32 := Scf.iv c0_i32_44 c1_i32_46 k0_t10
  let c16_i32_202 : BitVec 32 := 16#32
  let v216 : BitVec 32 := Scalar.muli arg13 c16_i32_202
  let c2_i32_203 : BitVec 32 := 2#32
  let v217 : BitVec 32 := Scalar.addi v216 c2_i32_203
  let c5_i32_226 : BitVec 32 := 5#32
  let v266 : BitVec 32 := Scalar.muli v217 c5_i32_226
  let v267 : BitVec 32 := Scalar.addi v266 c3_i32_227
  let c0_i32_230 : BitVec 32 := 0#32
  ![v267.toNat, 0]
def k0_off751 (v277 : BitVec 32) : Fin 2 → Nat :=
  let c0_i32_235 : BitVec 32 := 0#32
  ![v277.toNat, 0]

def k0_chk306 (v277 : BitVec 32) : Prop :=
  (∀ a, (k0_off751 v277) a + S1x64.size a ≤ S1000000x64.size a)
instance k0_chk306.dec : ∀ (v277 : BitVec 32), Decidable (k0_chk306 v277) := fun v277 => decidable_of_iff' _ (Iff.of_eq (k0_chk306.eq_1 v277))
theorem k0_off751_inb : ∀ (v277 : BitVec 32) (k0_hw306 : k0_chk306 v277), ∀ a, (k0_off751 v277) a + S1x64.size a ≤ S1000000x64.size a := fun v277 k0_hw306 => k0_hw306

def k0_off752 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_202 : BitVec 32 := 16#32
  let v216 : BitVec 32 := Scalar.muli arg13 c16_i32_202
  let c2_i32_203 : BitVec 32 := 2#32
  let v217 : BitVec 32 := Scalar.addi v216 c2_i32_203
  let c5_i32_232 : BitVec 32 := 5#32
  let v278 : BitVec 32 := Scalar.muli v217 c5_i32_232
  let c4_i32_233 : BitVec 32 := 4#32
  let v279 : BitVec 32 := Scalar.addi v278 c4_i32_233
  let c0_i32_236 : BitVec 32 := 0#32
  ![v279.toNat, 0]
def k0_off753 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_238 : BitVec 32 := 16#32
  let v288 : BitVec 32 := Scalar.muli arg13 c16_i32_238
  let c3_i32_239 : BitVec 32 := 3#32
  let v289 : BitVec 32 := Scalar.addi v288 c3_i32_239
  let c0_i32_240 : BitVec 32 := 0#32
  ![v289.toNat, 0]
def k0_off754 (v291 : BitVec 32) : Fin 2 → Nat :=
  let c0_i32_241 : BitVec 32 := 0#32
  ![v291.toNat, 0]

def k0_chk307 (v291 : BitVec 32) : Prop :=
  (∀ a, (k0_off754 v291) a + S1x64.size a ≤ S1000000x64.size a)
instance k0_chk307.dec : ∀ (v291 : BitVec 32), Decidable (k0_chk307 v291) := fun v291 => decidable_of_iff' _ (Iff.of_eq (k0_chk307.eq_1 v291))
theorem k0_off754_inb : ∀ (v291 : BitVec 32) (k0_hw307 : k0_chk307 v291), ∀ a, (k0_off754 v291) a + S1x64.size a ≤ S1000000x64.size a := fun v291 k0_hw307 => k0_hw307

def k0_off755 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_238 : BitVec 32 := 16#32
  let v288 : BitVec 32 := Scalar.muli arg13 c16_i32_238
  let c3_i32_239 : BitVec 32 := 3#32
  let v289 : BitVec 32 := Scalar.addi v288 c3_i32_239
  let c0_i32_242 : BitVec 32 := 0#32
  ![v289.toNat, 0]
def k0_off756 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_238 : BitVec 32 := 16#32
  let v288 : BitVec 32 := Scalar.muli arg13 c16_i32_238
  let c3_i32_239 : BitVec 32 := 3#32
  let v289 : BitVec 32 := Scalar.addi v288 c3_i32_239
  let c5_i32_244 : BitVec 32 := 5#32
  let v302 : BitVec 32 := Scalar.muli v289 c5_i32_244
  let c0_i32_245 : BitVec 32 := 0#32
  let v303 : BitVec 32 := Scalar.addi v302 c0_i32_245
  let c0_i32_246 : BitVec 32 := 0#32
  ![v303.toNat, 0]
def k0_off757 (v301 : BitVec 32) : Fin 2 → Nat :=
  let c0_i32_247 : BitVec 32 := 0#32
  ![v301.toNat, 0]

def k0_chk308 (v301 : BitVec 32) : Prop :=
  (∀ a, (k0_off757 v301) a + S1x64.size a ≤ S1000000x64.size a)
instance k0_chk308.dec : ∀ (v301 : BitVec 32), Decidable (k0_chk308 v301) := fun v301 => decidable_of_iff' _ (Iff.of_eq (k0_chk308.eq_1 v301))
theorem k0_off757_inb : ∀ (v301 : BitVec 32) (k0_hw308 : k0_chk308 v301), ∀ a, (k0_off757 v301) a + S1x64.size a ≤ S1000000x64.size a := fun v301 k0_hw308 => k0_hw308

def k0_off758 (k0_t10 : Fin k0_t10_loop.trips) (c0_i32_245 : BitVec 32) : Fin 2 → Nat :=
  let c0_i32_44 : BitVec 32 := 0#32
  let c1_i32_46 : BitVec 32 := 1#32
  let arg13 : BitVec 32 := Scf.iv c0_i32_44 c1_i32_46 k0_t10
  let c16_i32_238 : BitVec 32 := 16#32
  let v288 : BitVec 32 := Scalar.muli arg13 c16_i32_238
  let c3_i32_239 : BitVec 32 := 3#32
  let v289 : BitVec 32 := Scalar.addi v288 c3_i32_239
  let c5_i32_244 : BitVec 32 := 5#32
  let v302 : BitVec 32 := Scalar.muli v289 c5_i32_244
  let v303 : BitVec 32 := Scalar.addi v302 c0_i32_245
  let c0_i32_248 : BitVec 32 := 0#32
  ![v303.toNat, 0]
def k0_off759 (v313 : BitVec 32) : Fin 2 → Nat :=
  let c0_i32_253 : BitVec 32 := 0#32
  ![v313.toNat, 0]

def k0_chk309 (v313 : BitVec 32) : Prop :=
  (∀ a, (k0_off759 v313) a + S1x64.size a ≤ S1000000x64.size a)
instance k0_chk309.dec : ∀ (v313 : BitVec 32), Decidable (k0_chk309 v313) := fun v313 => decidable_of_iff' _ (Iff.of_eq (k0_chk309.eq_1 v313))
theorem k0_off759_inb : ∀ (v313 : BitVec 32) (k0_hw309 : k0_chk309 v313), ∀ a, (k0_off759 v313) a + S1x64.size a ≤ S1000000x64.size a := fun v313 k0_hw309 => k0_hw309

def k0_off760 (k0_t10 : Fin k0_t10_loop.trips) (c1_i32_251 : BitVec 32) : Fin 2 → Nat :=
  let c0_i32_44 : BitVec 32 := 0#32
  let c1_i32_46 : BitVec 32 := 1#32
  let arg13 : BitVec 32 := Scf.iv c0_i32_44 c1_i32_46 k0_t10
  let c16_i32_238 : BitVec 32 := 16#32
  let v288 : BitVec 32 := Scalar.muli arg13 c16_i32_238
  let c3_i32_239 : BitVec 32 := 3#32
  let v289 : BitVec 32 := Scalar.addi v288 c3_i32_239
  let c5_i32_250 : BitVec 32 := 5#32
  let v314 : BitVec 32 := Scalar.muli v289 c5_i32_250
  let v315 : BitVec 32 := Scalar.addi v314 c1_i32_251
  let c0_i32_254 : BitVec 32 := 0#32
  ![v315.toNat, 0]
def k0_off761 (v325 : BitVec 32) : Fin 2 → Nat :=
  let c0_i32_259 : BitVec 32 := 0#32
  ![v325.toNat, 0]

def k0_chk310 (v325 : BitVec 32) : Prop :=
  (∀ a, (k0_off761 v325) a + S1x64.size a ≤ S1000000x64.size a)
instance k0_chk310.dec : ∀ (v325 : BitVec 32), Decidable (k0_chk310 v325) := fun v325 => decidable_of_iff' _ (Iff.of_eq (k0_chk310.eq_1 v325))
theorem k0_off761_inb : ∀ (v325 : BitVec 32) (k0_hw310 : k0_chk310 v325), ∀ a, (k0_off761 v325) a + S1x64.size a ≤ S1000000x64.size a := fun v325 k0_hw310 => k0_hw310

def k0_off762 (k0_t10 : Fin k0_t10_loop.trips) (c2_i32_257 : BitVec 32) : Fin 2 → Nat :=
  let c0_i32_44 : BitVec 32 := 0#32
  let c1_i32_46 : BitVec 32 := 1#32
  let arg13 : BitVec 32 := Scf.iv c0_i32_44 c1_i32_46 k0_t10
  let c16_i32_238 : BitVec 32 := 16#32
  let v288 : BitVec 32 := Scalar.muli arg13 c16_i32_238
  let c3_i32_239 : BitVec 32 := 3#32
  let v289 : BitVec 32 := Scalar.addi v288 c3_i32_239
  let c5_i32_256 : BitVec 32 := 5#32
  let v326 : BitVec 32 := Scalar.muli v289 c5_i32_256
  let v327 : BitVec 32 := Scalar.addi v326 c2_i32_257
  let c0_i32_260 : BitVec 32 := 0#32
  ![v327.toNat, 0]
def k0_off763 (v337 : BitVec 32) : Fin 2 → Nat :=
  let c0_i32_265 : BitVec 32 := 0#32
  ![v337.toNat, 0]

def k0_chk311 (v337 : BitVec 32) : Prop :=
  (∀ a, (k0_off763 v337) a + S1x64.size a ≤ S1000000x64.size a)
instance k0_chk311.dec : ∀ (v337 : BitVec 32), Decidable (k0_chk311 v337) := fun v337 => decidable_of_iff' _ (Iff.of_eq (k0_chk311.eq_1 v337))
theorem k0_off763_inb : ∀ (v337 : BitVec 32) (k0_hw311 : k0_chk311 v337), ∀ a, (k0_off763 v337) a + S1x64.size a ≤ S1000000x64.size a := fun v337 k0_hw311 => k0_hw311

def k0_off764 (k0_t10 : Fin k0_t10_loop.trips) (c3_i32_263 : BitVec 32) : Fin 2 → Nat :=
  let c0_i32_44 : BitVec 32 := 0#32
  let c1_i32_46 : BitVec 32 := 1#32
  let arg13 : BitVec 32 := Scf.iv c0_i32_44 c1_i32_46 k0_t10
  let c16_i32_238 : BitVec 32 := 16#32
  let v288 : BitVec 32 := Scalar.muli arg13 c16_i32_238
  let c3_i32_239 : BitVec 32 := 3#32
  let v289 : BitVec 32 := Scalar.addi v288 c3_i32_239
  let c5_i32_262 : BitVec 32 := 5#32
  let v338 : BitVec 32 := Scalar.muli v289 c5_i32_262
  let v339 : BitVec 32 := Scalar.addi v338 c3_i32_263
  let c0_i32_266 : BitVec 32 := 0#32
  ![v339.toNat, 0]
def k0_off765 (v349 : BitVec 32) : Fin 2 → Nat :=
  let c0_i32_271 : BitVec 32 := 0#32
  ![v349.toNat, 0]

def k0_chk312 (v349 : BitVec 32) : Prop :=
  (∀ a, (k0_off765 v349) a + S1x64.size a ≤ S1000000x64.size a)
instance k0_chk312.dec : ∀ (v349 : BitVec 32), Decidable (k0_chk312 v349) := fun v349 => decidable_of_iff' _ (Iff.of_eq (k0_chk312.eq_1 v349))
theorem k0_off765_inb : ∀ (v349 : BitVec 32) (k0_hw312 : k0_chk312 v349), ∀ a, (k0_off765 v349) a + S1x64.size a ≤ S1000000x64.size a := fun v349 k0_hw312 => k0_hw312

def k0_off766 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_238 : BitVec 32 := 16#32
  let v288 : BitVec 32 := Scalar.muli arg13 c16_i32_238
  let c3_i32_239 : BitVec 32 := 3#32
  let v289 : BitVec 32 := Scalar.addi v288 c3_i32_239
  let c5_i32_268 : BitVec 32 := 5#32
  let v350 : BitVec 32 := Scalar.muli v289 c5_i32_268
  let c4_i32_269 : BitVec 32 := 4#32
  let v351 : BitVec 32 := Scalar.addi v350 c4_i32_269
  let c0_i32_272 : BitVec 32 := 0#32
  ![v351.toNat, 0]
def k0_off767 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_274 : BitVec 32 := 16#32
  let v360 : BitVec 32 := Scalar.muli arg13 c16_i32_274
  let c4_i32_275 : BitVec 32 := 4#32
  let v361 : BitVec 32 := Scalar.addi v360 c4_i32_275
  let c0_i32_276 : BitVec 32 := 0#32
  ![v361.toNat, 0]
def k0_off768 (v363 : BitVec 32) : Fin 2 → Nat :=
  let c0_i32_277 : BitVec 32 := 0#32
  ![v363.toNat, 0]

def k0_chk313 (v363 : BitVec 32) : Prop :=
  (∀ a, (k0_off768 v363) a + S1x64.size a ≤ S1000000x64.size a)
instance k0_chk313.dec : ∀ (v363 : BitVec 32), Decidable (k0_chk313 v363) := fun v363 => decidable_of_iff' _ (Iff.of_eq (k0_chk313.eq_1 v363))
theorem k0_off768_inb : ∀ (v363 : BitVec 32) (k0_hw313 : k0_chk313 v363), ∀ a, (k0_off768 v363) a + S1x64.size a ≤ S1000000x64.size a := fun v363 k0_hw313 => k0_hw313

def k0_off769 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_274 : BitVec 32 := 16#32
  let v360 : BitVec 32 := Scalar.muli arg13 c16_i32_274
  let c4_i32_275 : BitVec 32 := 4#32
  let v361 : BitVec 32 := Scalar.addi v360 c4_i32_275
  let c0_i32_278 : BitVec 32 := 0#32
  ![v361.toNat, 0]
def k0_off770 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_274 : BitVec 32 := 16#32
  let v360 : BitVec 32 := Scalar.muli arg13 c16_i32_274
  let c4_i32_275 : BitVec 32 := 4#32
  let v361 : BitVec 32 := Scalar.addi v360 c4_i32_275
  let c5_i32_280 : BitVec 32 := 5#32
  let v374 : BitVec 32 := Scalar.muli v361 c5_i32_280
  let c0_i32_281 : BitVec 32 := 0#32
  let v375 : BitVec 32 := Scalar.addi v374 c0_i32_281
  let c0_i32_282 : BitVec 32 := 0#32
  ![v375.toNat, 0]
def k0_off771 (v373 : BitVec 32) : Fin 2 → Nat :=
  let c0_i32_283 : BitVec 32 := 0#32
  ![v373.toNat, 0]

def k0_chk314 (v373 : BitVec 32) : Prop :=
  (∀ a, (k0_off771 v373) a + S1x64.size a ≤ S1000000x64.size a)
instance k0_chk314.dec : ∀ (v373 : BitVec 32), Decidable (k0_chk314 v373) := fun v373 => decidable_of_iff' _ (Iff.of_eq (k0_chk314.eq_1 v373))
theorem k0_off771_inb : ∀ (v373 : BitVec 32) (k0_hw314 : k0_chk314 v373), ∀ a, (k0_off771 v373) a + S1x64.size a ≤ S1000000x64.size a := fun v373 k0_hw314 => k0_hw314

def k0_off772 (k0_t10 : Fin k0_t10_loop.trips) (c0_i32_281 : BitVec 32) : Fin 2 → Nat :=
  let c0_i32_44 : BitVec 32 := 0#32
  let c1_i32_46 : BitVec 32 := 1#32
  let arg13 : BitVec 32 := Scf.iv c0_i32_44 c1_i32_46 k0_t10
  let c16_i32_274 : BitVec 32 := 16#32
  let v360 : BitVec 32 := Scalar.muli arg13 c16_i32_274
  let c4_i32_275 : BitVec 32 := 4#32
  let v361 : BitVec 32 := Scalar.addi v360 c4_i32_275
  let c5_i32_280 : BitVec 32 := 5#32
  let v374 : BitVec 32 := Scalar.muli v361 c5_i32_280
  let v375 : BitVec 32 := Scalar.addi v374 c0_i32_281
  let c0_i32_284 : BitVec 32 := 0#32
  ![v375.toNat, 0]
def k0_off773 (v385 : BitVec 32) : Fin 2 → Nat :=
  let c0_i32_289 : BitVec 32 := 0#32
  ![v385.toNat, 0]

def k0_chk315 (v385 : BitVec 32) : Prop :=
  (∀ a, (k0_off773 v385) a + S1x64.size a ≤ S1000000x64.size a)
instance k0_chk315.dec : ∀ (v385 : BitVec 32), Decidable (k0_chk315 v385) := fun v385 => decidable_of_iff' _ (Iff.of_eq (k0_chk315.eq_1 v385))
theorem k0_off773_inb : ∀ (v385 : BitVec 32) (k0_hw315 : k0_chk315 v385), ∀ a, (k0_off773 v385) a + S1x64.size a ≤ S1000000x64.size a := fun v385 k0_hw315 => k0_hw315

def k0_off774 (k0_t10 : Fin k0_t10_loop.trips) (c1_i32_287 : BitVec 32) : Fin 2 → Nat :=
  let c0_i32_44 : BitVec 32 := 0#32
  let c1_i32_46 : BitVec 32 := 1#32
  let arg13 : BitVec 32 := Scf.iv c0_i32_44 c1_i32_46 k0_t10
  let c16_i32_274 : BitVec 32 := 16#32
  let v360 : BitVec 32 := Scalar.muli arg13 c16_i32_274
  let c4_i32_275 : BitVec 32 := 4#32
  let v361 : BitVec 32 := Scalar.addi v360 c4_i32_275
  let c5_i32_286 : BitVec 32 := 5#32
  let v386 : BitVec 32 := Scalar.muli v361 c5_i32_286
  let v387 : BitVec 32 := Scalar.addi v386 c1_i32_287
  let c0_i32_290 : BitVec 32 := 0#32
  ![v387.toNat, 0]
def k0_off775 (v397 : BitVec 32) : Fin 2 → Nat :=
  let c0_i32_295 : BitVec 32 := 0#32
  ![v397.toNat, 0]

def k0_chk316 (v397 : BitVec 32) : Prop :=
  (∀ a, (k0_off775 v397) a + S1x64.size a ≤ S1000000x64.size a)
instance k0_chk316.dec : ∀ (v397 : BitVec 32), Decidable (k0_chk316 v397) := fun v397 => decidable_of_iff' _ (Iff.of_eq (k0_chk316.eq_1 v397))
theorem k0_off775_inb : ∀ (v397 : BitVec 32) (k0_hw316 : k0_chk316 v397), ∀ a, (k0_off775 v397) a + S1x64.size a ≤ S1000000x64.size a := fun v397 k0_hw316 => k0_hw316

def k0_off776 (k0_t10 : Fin k0_t10_loop.trips) (c2_i32_293 : BitVec 32) : Fin 2 → Nat :=
  let c0_i32_44 : BitVec 32 := 0#32
  let c1_i32_46 : BitVec 32 := 1#32
  let arg13 : BitVec 32 := Scf.iv c0_i32_44 c1_i32_46 k0_t10
  let c16_i32_274 : BitVec 32 := 16#32
  let v360 : BitVec 32 := Scalar.muli arg13 c16_i32_274
  let c4_i32_275 : BitVec 32 := 4#32
  let v361 : BitVec 32 := Scalar.addi v360 c4_i32_275
  let c5_i32_292 : BitVec 32 := 5#32
  let v398 : BitVec 32 := Scalar.muli v361 c5_i32_292
  let v399 : BitVec 32 := Scalar.addi v398 c2_i32_293
  let c0_i32_296 : BitVec 32 := 0#32
  ![v399.toNat, 0]
def k0_off777 (v409 : BitVec 32) : Fin 2 → Nat :=
  let c0_i32_301 : BitVec 32 := 0#32
  ![v409.toNat, 0]

def k0_chk317 (v409 : BitVec 32) : Prop :=
  (∀ a, (k0_off777 v409) a + S1x64.size a ≤ S1000000x64.size a)
instance k0_chk317.dec : ∀ (v409 : BitVec 32), Decidable (k0_chk317 v409) := fun v409 => decidable_of_iff' _ (Iff.of_eq (k0_chk317.eq_1 v409))
theorem k0_off777_inb : ∀ (v409 : BitVec 32) (k0_hw317 : k0_chk317 v409), ∀ a, (k0_off777 v409) a + S1x64.size a ≤ S1000000x64.size a := fun v409 k0_hw317 => k0_hw317

def k0_off778 (k0_t10 : Fin k0_t10_loop.trips) (c3_i32_299 : BitVec 32) : Fin 2 → Nat :=
  let c0_i32_44 : BitVec 32 := 0#32
  let c1_i32_46 : BitVec 32 := 1#32
  let arg13 : BitVec 32 := Scf.iv c0_i32_44 c1_i32_46 k0_t10
  let c16_i32_274 : BitVec 32 := 16#32
  let v360 : BitVec 32 := Scalar.muli arg13 c16_i32_274
  let c4_i32_275 : BitVec 32 := 4#32
  let v361 : BitVec 32 := Scalar.addi v360 c4_i32_275
  let c5_i32_298 : BitVec 32 := 5#32
  let v410 : BitVec 32 := Scalar.muli v361 c5_i32_298
  let v411 : BitVec 32 := Scalar.addi v410 c3_i32_299
  let c0_i32_302 : BitVec 32 := 0#32
  ![v411.toNat, 0]
def k0_off779 (v421 : BitVec 32) : Fin 2 → Nat :=
  let c0_i32_307 : BitVec 32 := 0#32
  ![v421.toNat, 0]

def k0_chk318 (v421 : BitVec 32) : Prop :=
  (∀ a, (k0_off779 v421) a + S1x64.size a ≤ S1000000x64.size a)
instance k0_chk318.dec : ∀ (v421 : BitVec 32), Decidable (k0_chk318 v421) := fun v421 => decidable_of_iff' _ (Iff.of_eq (k0_chk318.eq_1 v421))
theorem k0_off779_inb : ∀ (v421 : BitVec 32) (k0_hw318 : k0_chk318 v421), ∀ a, (k0_off779 v421) a + S1x64.size a ≤ S1000000x64.size a := fun v421 k0_hw318 => k0_hw318

def k0_off780 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_274 : BitVec 32 := 16#32
  let v360 : BitVec 32 := Scalar.muli arg13 c16_i32_274
  let c4_i32_275 : BitVec 32 := 4#32
  let v361 : BitVec 32 := Scalar.addi v360 c4_i32_275
  let c5_i32_304 : BitVec 32 := 5#32
  let v422 : BitVec 32 := Scalar.muli v361 c5_i32_304
  let c4_i32_305 : BitVec 32 := 4#32
  let v423 : BitVec 32 := Scalar.addi v422 c4_i32_305
  let c0_i32_308 : BitVec 32 := 0#32
  ![v423.toNat, 0]
def k0_off781 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_310 : BitVec 32 := 16#32
  let v432 : BitVec 32 := Scalar.muli arg13 c16_i32_310
  let c5_i32_311 : BitVec 32 := 5#32
  let v433 : BitVec 32 := Scalar.addi v432 c5_i32_311
  let c0_i32_312 : BitVec 32 := 0#32
  ![v433.toNat, 0]
def k0_off782 (v435 : BitVec 32) : Fin 2 → Nat :=
  let c0_i32_313 : BitVec 32 := 0#32
  ![v435.toNat, 0]

def k0_chk319 (v435 : BitVec 32) : Prop :=
  (∀ a, (k0_off782 v435) a + S1x64.size a ≤ S1000000x64.size a)
instance k0_chk319.dec : ∀ (v435 : BitVec 32), Decidable (k0_chk319 v435) := fun v435 => decidable_of_iff' _ (Iff.of_eq (k0_chk319.eq_1 v435))
theorem k0_off782_inb : ∀ (v435 : BitVec 32) (k0_hw319 : k0_chk319 v435), ∀ a, (k0_off782 v435) a + S1x64.size a ≤ S1000000x64.size a := fun v435 k0_hw319 => k0_hw319

def k0_off783 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_310 : BitVec 32 := 16#32
  let v432 : BitVec 32 := Scalar.muli arg13 c16_i32_310
  let c5_i32_311 : BitVec 32 := 5#32
  let v433 : BitVec 32 := Scalar.addi v432 c5_i32_311
  let c0_i32_314 : BitVec 32 := 0#32
  ![v433.toNat, 0]
def k0_off784 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_310 : BitVec 32 := 16#32
  let v432 : BitVec 32 := Scalar.muli arg13 c16_i32_310
  let c5_i32_311 : BitVec 32 := 5#32
  let v433 : BitVec 32 := Scalar.addi v432 c5_i32_311
  let c5_i32_316 : BitVec 32 := 5#32
  let v446 : BitVec 32 := Scalar.muli v433 c5_i32_316
  let c0_i32_317 : BitVec 32 := 0#32
  let v447 : BitVec 32 := Scalar.addi v446 c0_i32_317
  let c0_i32_318 : BitVec 32 := 0#32
  ![v447.toNat, 0]
def k0_off785 (v445 : BitVec 32) : Fin 2 → Nat :=
  let c0_i32_319 : BitVec 32 := 0#32
  ![v445.toNat, 0]

def k0_chk320 (v445 : BitVec 32) : Prop :=
  (∀ a, (k0_off785 v445) a + S1x64.size a ≤ S1000000x64.size a)
instance k0_chk320.dec : ∀ (v445 : BitVec 32), Decidable (k0_chk320 v445) := fun v445 => decidable_of_iff' _ (Iff.of_eq (k0_chk320.eq_1 v445))
theorem k0_off785_inb : ∀ (v445 : BitVec 32) (k0_hw320 : k0_chk320 v445), ∀ a, (k0_off785 v445) a + S1x64.size a ≤ S1000000x64.size a := fun v445 k0_hw320 => k0_hw320

def k0_off786 (k0_t10 : Fin k0_t10_loop.trips) (c0_i32_317 : BitVec 32) : Fin 2 → Nat :=
  let c0_i32_44 : BitVec 32 := 0#32
  let c1_i32_46 : BitVec 32 := 1#32
  let arg13 : BitVec 32 := Scf.iv c0_i32_44 c1_i32_46 k0_t10
  let c16_i32_310 : BitVec 32 := 16#32
  let v432 : BitVec 32 := Scalar.muli arg13 c16_i32_310
  let c5_i32_311 : BitVec 32 := 5#32
  let v433 : BitVec 32 := Scalar.addi v432 c5_i32_311
  let c5_i32_316 : BitVec 32 := 5#32
  let v446 : BitVec 32 := Scalar.muli v433 c5_i32_316
  let v447 : BitVec 32 := Scalar.addi v446 c0_i32_317
  let c0_i32_320 : BitVec 32 := 0#32
  ![v447.toNat, 0]
def k0_off787 (v457 : BitVec 32) : Fin 2 → Nat :=
  let c0_i32_325 : BitVec 32 := 0#32
  ![v457.toNat, 0]

def k0_chk321 (v457 : BitVec 32) : Prop :=
  (∀ a, (k0_off787 v457) a + S1x64.size a ≤ S1000000x64.size a)
instance k0_chk321.dec : ∀ (v457 : BitVec 32), Decidable (k0_chk321 v457) := fun v457 => decidable_of_iff' _ (Iff.of_eq (k0_chk321.eq_1 v457))
theorem k0_off787_inb : ∀ (v457 : BitVec 32) (k0_hw321 : k0_chk321 v457), ∀ a, (k0_off787 v457) a + S1x64.size a ≤ S1000000x64.size a := fun v457 k0_hw321 => k0_hw321

def k0_off788 (k0_t10 : Fin k0_t10_loop.trips) (c1_i32_323 : BitVec 32) : Fin 2 → Nat :=
  let c0_i32_44 : BitVec 32 := 0#32
  let c1_i32_46 : BitVec 32 := 1#32
  let arg13 : BitVec 32 := Scf.iv c0_i32_44 c1_i32_46 k0_t10
  let c16_i32_310 : BitVec 32 := 16#32
  let v432 : BitVec 32 := Scalar.muli arg13 c16_i32_310
  let c5_i32_311 : BitVec 32 := 5#32
  let v433 : BitVec 32 := Scalar.addi v432 c5_i32_311
  let c5_i32_322 : BitVec 32 := 5#32
  let v458 : BitVec 32 := Scalar.muli v433 c5_i32_322
  let v459 : BitVec 32 := Scalar.addi v458 c1_i32_323
  let c0_i32_326 : BitVec 32 := 0#32
  ![v459.toNat, 0]
def k0_off789 (v469 : BitVec 32) : Fin 2 → Nat :=
  let c0_i32_331 : BitVec 32 := 0#32
  ![v469.toNat, 0]

def k0_chk322 (v469 : BitVec 32) : Prop :=
  (∀ a, (k0_off789 v469) a + S1x64.size a ≤ S1000000x64.size a)
instance k0_chk322.dec : ∀ (v469 : BitVec 32), Decidable (k0_chk322 v469) := fun v469 => decidable_of_iff' _ (Iff.of_eq (k0_chk322.eq_1 v469))
theorem k0_off789_inb : ∀ (v469 : BitVec 32) (k0_hw322 : k0_chk322 v469), ∀ a, (k0_off789 v469) a + S1x64.size a ≤ S1000000x64.size a := fun v469 k0_hw322 => k0_hw322

def k0_off790 (k0_t10 : Fin k0_t10_loop.trips) (c2_i32_329 : BitVec 32) : Fin 2 → Nat :=
  let c0_i32_44 : BitVec 32 := 0#32
  let c1_i32_46 : BitVec 32 := 1#32
  let arg13 : BitVec 32 := Scf.iv c0_i32_44 c1_i32_46 k0_t10
  let c16_i32_310 : BitVec 32 := 16#32
  let v432 : BitVec 32 := Scalar.muli arg13 c16_i32_310
  let c5_i32_311 : BitVec 32 := 5#32
  let v433 : BitVec 32 := Scalar.addi v432 c5_i32_311
  let c5_i32_328 : BitVec 32 := 5#32
  let v470 : BitVec 32 := Scalar.muli v433 c5_i32_328
  let v471 : BitVec 32 := Scalar.addi v470 c2_i32_329
  let c0_i32_332 : BitVec 32 := 0#32
  ![v471.toNat, 0]
def k0_off791 (v481 : BitVec 32) : Fin 2 → Nat :=
  let c0_i32_337 : BitVec 32 := 0#32
  ![v481.toNat, 0]

def k0_chk323 (v481 : BitVec 32) : Prop :=
  (∀ a, (k0_off791 v481) a + S1x64.size a ≤ S1000000x64.size a)
instance k0_chk323.dec : ∀ (v481 : BitVec 32), Decidable (k0_chk323 v481) := fun v481 => decidable_of_iff' _ (Iff.of_eq (k0_chk323.eq_1 v481))
theorem k0_off791_inb : ∀ (v481 : BitVec 32) (k0_hw323 : k0_chk323 v481), ∀ a, (k0_off791 v481) a + S1x64.size a ≤ S1000000x64.size a := fun v481 k0_hw323 => k0_hw323

def k0_off792 (k0_t10 : Fin k0_t10_loop.trips) (c3_i32_335 : BitVec 32) : Fin 2 → Nat :=
  let c0_i32_44 : BitVec 32 := 0#32
  let c1_i32_46 : BitVec 32 := 1#32
  let arg13 : BitVec 32 := Scf.iv c0_i32_44 c1_i32_46 k0_t10
  let c16_i32_310 : BitVec 32 := 16#32
  let v432 : BitVec 32 := Scalar.muli arg13 c16_i32_310
  let c5_i32_311 : BitVec 32 := 5#32
  let v433 : BitVec 32 := Scalar.addi v432 c5_i32_311
  let c5_i32_334 : BitVec 32 := 5#32
  let v482 : BitVec 32 := Scalar.muli v433 c5_i32_334
  let v483 : BitVec 32 := Scalar.addi v482 c3_i32_335
  let c0_i32_338 : BitVec 32 := 0#32
  ![v483.toNat, 0]
def k0_off793 (v493 : BitVec 32) : Fin 2 → Nat :=
  let c0_i32_343 : BitVec 32 := 0#32
  ![v493.toNat, 0]

def k0_chk324 (v493 : BitVec 32) : Prop :=
  (∀ a, (k0_off793 v493) a + S1x64.size a ≤ S1000000x64.size a)
instance k0_chk324.dec : ∀ (v493 : BitVec 32), Decidable (k0_chk324 v493) := fun v493 => decidable_of_iff' _ (Iff.of_eq (k0_chk324.eq_1 v493))
theorem k0_off793_inb : ∀ (v493 : BitVec 32) (k0_hw324 : k0_chk324 v493), ∀ a, (k0_off793 v493) a + S1x64.size a ≤ S1000000x64.size a := fun v493 k0_hw324 => k0_hw324

def k0_off794 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_310 : BitVec 32 := 16#32
  let v432 : BitVec 32 := Scalar.muli arg13 c16_i32_310
  let c5_i32_311 : BitVec 32 := 5#32
  let v433 : BitVec 32 := Scalar.addi v432 c5_i32_311
  let c5_i32_340 : BitVec 32 := 5#32
  let v494 : BitVec 32 := Scalar.muli v433 c5_i32_340
  let c4_i32_341 : BitVec 32 := 4#32
  let v495 : BitVec 32 := Scalar.addi v494 c4_i32_341
  let c0_i32_344 : BitVec 32 := 0#32
  ![v495.toNat, 0]
def k0_off795 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_346 : BitVec 32 := 16#32
  let v504 : BitVec 32 := Scalar.muli arg13 c16_i32_346
  let c6_i32 : BitVec 32 := 6#32
  let v505 : BitVec 32 := Scalar.addi v504 c6_i32
  let c0_i32_347 : BitVec 32 := 0#32
  ![v505.toNat, 0]
def k0_off796 (v507 : BitVec 32) : Fin 2 → Nat :=
  let c0_i32_348 : BitVec 32 := 0#32
  ![v507.toNat, 0]

def k0_chk325 (v507 : BitVec 32) : Prop :=
  (∀ a, (k0_off796 v507) a + S1x64.size a ≤ S1000000x64.size a)
instance k0_chk325.dec : ∀ (v507 : BitVec 32), Decidable (k0_chk325 v507) := fun v507 => decidable_of_iff' _ (Iff.of_eq (k0_chk325.eq_1 v507))
theorem k0_off796_inb : ∀ (v507 : BitVec 32) (k0_hw325 : k0_chk325 v507), ∀ a, (k0_off796 v507) a + S1x64.size a ≤ S1000000x64.size a := fun v507 k0_hw325 => k0_hw325

def k0_off797 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_346 : BitVec 32 := 16#32
  let v504 : BitVec 32 := Scalar.muli arg13 c16_i32_346
  let c6_i32 : BitVec 32 := 6#32
  let v505 : BitVec 32 := Scalar.addi v504 c6_i32
  let c0_i32_349 : BitVec 32 := 0#32
  ![v505.toNat, 0]
def k0_off798 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_346 : BitVec 32 := 16#32
  let v504 : BitVec 32 := Scalar.muli arg13 c16_i32_346
  let c6_i32 : BitVec 32 := 6#32
  let v505 : BitVec 32 := Scalar.addi v504 c6_i32
  let c5_i32_351 : BitVec 32 := 5#32
  let v518 : BitVec 32 := Scalar.muli v505 c5_i32_351
  let c0_i32_352 : BitVec 32 := 0#32
  let v519 : BitVec 32 := Scalar.addi v518 c0_i32_352
  let c0_i32_353 : BitVec 32 := 0#32
  ![v519.toNat, 0]
def k0_off799 (v517 : BitVec 32) : Fin 2 → Nat :=
  let c0_i32_354 : BitVec 32 := 0#32
  ![v517.toNat, 0]

def k0_chk326 (v517 : BitVec 32) : Prop :=
  (∀ a, (k0_off799 v517) a + S1x64.size a ≤ S1000000x64.size a)
instance k0_chk326.dec : ∀ (v517 : BitVec 32), Decidable (k0_chk326 v517) := fun v517 => decidable_of_iff' _ (Iff.of_eq (k0_chk326.eq_1 v517))
theorem k0_off799_inb : ∀ (v517 : BitVec 32) (k0_hw326 : k0_chk326 v517), ∀ a, (k0_off799 v517) a + S1x64.size a ≤ S1000000x64.size a := fun v517 k0_hw326 => k0_hw326

def k0_off800 (k0_t10 : Fin k0_t10_loop.trips) (c0_i32_352 : BitVec 32) : Fin 2 → Nat :=
  let c0_i32_44 : BitVec 32 := 0#32
  let c1_i32_46 : BitVec 32 := 1#32
  let arg13 : BitVec 32 := Scf.iv c0_i32_44 c1_i32_46 k0_t10
  let c16_i32_346 : BitVec 32 := 16#32
  let v504 : BitVec 32 := Scalar.muli arg13 c16_i32_346
  let c6_i32 : BitVec 32 := 6#32
  let v505 : BitVec 32 := Scalar.addi v504 c6_i32
  let c5_i32_351 : BitVec 32 := 5#32
  let v518 : BitVec 32 := Scalar.muli v505 c5_i32_351
  let v519 : BitVec 32 := Scalar.addi v518 c0_i32_352
  let c0_i32_355 : BitVec 32 := 0#32
  ![v519.toNat, 0]
def k0_off801 (v529 : BitVec 32) : Fin 2 → Nat :=
  let c0_i32_360 : BitVec 32 := 0#32
  ![v529.toNat, 0]

def k0_chk327 (v529 : BitVec 32) : Prop :=
  (∀ a, (k0_off801 v529) a + S1x64.size a ≤ S1000000x64.size a)
instance k0_chk327.dec : ∀ (v529 : BitVec 32), Decidable (k0_chk327 v529) := fun v529 => decidable_of_iff' _ (Iff.of_eq (k0_chk327.eq_1 v529))
theorem k0_off801_inb : ∀ (v529 : BitVec 32) (k0_hw327 : k0_chk327 v529), ∀ a, (k0_off801 v529) a + S1x64.size a ≤ S1000000x64.size a := fun v529 k0_hw327 => k0_hw327

def k0_off802 (k0_t10 : Fin k0_t10_loop.trips) (c1_i32_358 : BitVec 32) : Fin 2 → Nat :=
  let c0_i32_44 : BitVec 32 := 0#32
  let c1_i32_46 : BitVec 32 := 1#32
  let arg13 : BitVec 32 := Scf.iv c0_i32_44 c1_i32_46 k0_t10
  let c16_i32_346 : BitVec 32 := 16#32
  let v504 : BitVec 32 := Scalar.muli arg13 c16_i32_346
  let c6_i32 : BitVec 32 := 6#32
  let v505 : BitVec 32 := Scalar.addi v504 c6_i32
  let c5_i32_357 : BitVec 32 := 5#32
  let v530 : BitVec 32 := Scalar.muli v505 c5_i32_357
  let v531 : BitVec 32 := Scalar.addi v530 c1_i32_358
  let c0_i32_361 : BitVec 32 := 0#32
  ![v531.toNat, 0]
def k0_off803 (v541 : BitVec 32) : Fin 2 → Nat :=
  let c0_i32_366 : BitVec 32 := 0#32
  ![v541.toNat, 0]

def k0_chk328 (v541 : BitVec 32) : Prop :=
  (∀ a, (k0_off803 v541) a + S1x64.size a ≤ S1000000x64.size a)
instance k0_chk328.dec : ∀ (v541 : BitVec 32), Decidable (k0_chk328 v541) := fun v541 => decidable_of_iff' _ (Iff.of_eq (k0_chk328.eq_1 v541))
theorem k0_off803_inb : ∀ (v541 : BitVec 32) (k0_hw328 : k0_chk328 v541), ∀ a, (k0_off803 v541) a + S1x64.size a ≤ S1000000x64.size a := fun v541 k0_hw328 => k0_hw328

def k0_off804 (k0_t10 : Fin k0_t10_loop.trips) (c2_i32_364 : BitVec 32) : Fin 2 → Nat :=
  let c0_i32_44 : BitVec 32 := 0#32
  let c1_i32_46 : BitVec 32 := 1#32
  let arg13 : BitVec 32 := Scf.iv c0_i32_44 c1_i32_46 k0_t10
  let c16_i32_346 : BitVec 32 := 16#32
  let v504 : BitVec 32 := Scalar.muli arg13 c16_i32_346
  let c6_i32 : BitVec 32 := 6#32
  let v505 : BitVec 32 := Scalar.addi v504 c6_i32
  let c5_i32_363 : BitVec 32 := 5#32
  let v542 : BitVec 32 := Scalar.muli v505 c5_i32_363
  let v543 : BitVec 32 := Scalar.addi v542 c2_i32_364
  let c0_i32_367 : BitVec 32 := 0#32
  ![v543.toNat, 0]
def k0_off805 (v553 : BitVec 32) : Fin 2 → Nat :=
  let c0_i32_372 : BitVec 32 := 0#32
  ![v553.toNat, 0]

def k0_chk329 (v553 : BitVec 32) : Prop :=
  (∀ a, (k0_off805 v553) a + S1x64.size a ≤ S1000000x64.size a)
instance k0_chk329.dec : ∀ (v553 : BitVec 32), Decidable (k0_chk329 v553) := fun v553 => decidable_of_iff' _ (Iff.of_eq (k0_chk329.eq_1 v553))
theorem k0_off805_inb : ∀ (v553 : BitVec 32) (k0_hw329 : k0_chk329 v553), ∀ a, (k0_off805 v553) a + S1x64.size a ≤ S1000000x64.size a := fun v553 k0_hw329 => k0_hw329

def k0_off806 (k0_t10 : Fin k0_t10_loop.trips) (c3_i32_370 : BitVec 32) : Fin 2 → Nat :=
  let c0_i32_44 : BitVec 32 := 0#32
  let c1_i32_46 : BitVec 32 := 1#32
  let arg13 : BitVec 32 := Scf.iv c0_i32_44 c1_i32_46 k0_t10
  let c16_i32_346 : BitVec 32 := 16#32
  let v504 : BitVec 32 := Scalar.muli arg13 c16_i32_346
  let c6_i32 : BitVec 32 := 6#32
  let v505 : BitVec 32 := Scalar.addi v504 c6_i32
  let c5_i32_369 : BitVec 32 := 5#32
  let v554 : BitVec 32 := Scalar.muli v505 c5_i32_369
  let v555 : BitVec 32 := Scalar.addi v554 c3_i32_370
  let c0_i32_373 : BitVec 32 := 0#32
  ![v555.toNat, 0]
def k0_off807 (v565 : BitVec 32) : Fin 2 → Nat :=
  let c0_i32_378 : BitVec 32 := 0#32
  ![v565.toNat, 0]

def k0_chk330 (v565 : BitVec 32) : Prop :=
  (∀ a, (k0_off807 v565) a + S1x64.size a ≤ S1000000x64.size a)
instance k0_chk330.dec : ∀ (v565 : BitVec 32), Decidable (k0_chk330 v565) := fun v565 => decidable_of_iff' _ (Iff.of_eq (k0_chk330.eq_1 v565))
theorem k0_off807_inb : ∀ (v565 : BitVec 32) (k0_hw330 : k0_chk330 v565), ∀ a, (k0_off807 v565) a + S1x64.size a ≤ S1000000x64.size a := fun v565 k0_hw330 => k0_hw330

def k0_off808 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_346 : BitVec 32 := 16#32
  let v504 : BitVec 32 := Scalar.muli arg13 c16_i32_346
  let c6_i32 : BitVec 32 := 6#32
  let v505 : BitVec 32 := Scalar.addi v504 c6_i32
  let c5_i32_375 : BitVec 32 := 5#32
  let v566 : BitVec 32 := Scalar.muli v505 c5_i32_375
  let c4_i32_376 : BitVec 32 := 4#32
  let v567 : BitVec 32 := Scalar.addi v566 c4_i32_376
  let c0_i32_379 : BitVec 32 := 0#32
  ![v567.toNat, 0]
def k0_off809 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_381 : BitVec 32 := 16#32
  let v576 : BitVec 32 := Scalar.muli arg13 c16_i32_381
  let c7_i32 : BitVec 32 := 7#32
  let v577 : BitVec 32 := Scalar.addi v576 c7_i32
  let c0_i32_382 : BitVec 32 := 0#32
  ![v577.toNat, 0]
def k0_off810 (v579 : BitVec 32) : Fin 2 → Nat :=
  let c0_i32_383 : BitVec 32 := 0#32
  ![v579.toNat, 0]

def k0_chk331 (v579 : BitVec 32) : Prop :=
  (∀ a, (k0_off810 v579) a + S1x64.size a ≤ S1000000x64.size a)
instance k0_chk331.dec : ∀ (v579 : BitVec 32), Decidable (k0_chk331 v579) := fun v579 => decidable_of_iff' _ (Iff.of_eq (k0_chk331.eq_1 v579))
theorem k0_off810_inb : ∀ (v579 : BitVec 32) (k0_hw331 : k0_chk331 v579), ∀ a, (k0_off810 v579) a + S1x64.size a ≤ S1000000x64.size a := fun v579 k0_hw331 => k0_hw331

def k0_off811 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_381 : BitVec 32 := 16#32
  let v576 : BitVec 32 := Scalar.muli arg13 c16_i32_381
  let c7_i32 : BitVec 32 := 7#32
  let v577 : BitVec 32 := Scalar.addi v576 c7_i32
  let c0_i32_384 : BitVec 32 := 0#32
  ![v577.toNat, 0]
def k0_off812 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_381 : BitVec 32 := 16#32
  let v576 : BitVec 32 := Scalar.muli arg13 c16_i32_381
  let c7_i32 : BitVec 32 := 7#32
  let v577 : BitVec 32 := Scalar.addi v576 c7_i32
  let c5_i32_386 : BitVec 32 := 5#32
  let v590 : BitVec 32 := Scalar.muli v577 c5_i32_386
  let c0_i32_387 : BitVec 32 := 0#32
  let v591 : BitVec 32 := Scalar.addi v590 c0_i32_387
  let c0_i32_388 : BitVec 32 := 0#32
  ![v591.toNat, 0]
def k0_off813 (v589 : BitVec 32) : Fin 2 → Nat :=
  let c0_i32_389 : BitVec 32 := 0#32
  ![v589.toNat, 0]

def k0_chk332 (v589 : BitVec 32) : Prop :=
  (∀ a, (k0_off813 v589) a + S1x64.size a ≤ S1000000x64.size a)
instance k0_chk332.dec : ∀ (v589 : BitVec 32), Decidable (k0_chk332 v589) := fun v589 => decidable_of_iff' _ (Iff.of_eq (k0_chk332.eq_1 v589))
theorem k0_off813_inb : ∀ (v589 : BitVec 32) (k0_hw332 : k0_chk332 v589), ∀ a, (k0_off813 v589) a + S1x64.size a ≤ S1000000x64.size a := fun v589 k0_hw332 => k0_hw332

def k0_off814 (k0_t10 : Fin k0_t10_loop.trips) (c0_i32_387 : BitVec 32) : Fin 2 → Nat :=
  let c0_i32_44 : BitVec 32 := 0#32
  let c1_i32_46 : BitVec 32 := 1#32
  let arg13 : BitVec 32 := Scf.iv c0_i32_44 c1_i32_46 k0_t10
  let c16_i32_381 : BitVec 32 := 16#32
  let v576 : BitVec 32 := Scalar.muli arg13 c16_i32_381
  let c7_i32 : BitVec 32 := 7#32
  let v577 : BitVec 32 := Scalar.addi v576 c7_i32
  let c5_i32_386 : BitVec 32 := 5#32
  let v590 : BitVec 32 := Scalar.muli v577 c5_i32_386
  let v591 : BitVec 32 := Scalar.addi v590 c0_i32_387
  let c0_i32_390 : BitVec 32 := 0#32
  ![v591.toNat, 0]
def k0_off815 (v601 : BitVec 32) : Fin 2 → Nat :=
  let c0_i32_395 : BitVec 32 := 0#32
  ![v601.toNat, 0]

def k0_chk333 (v601 : BitVec 32) : Prop :=
  (∀ a, (k0_off815 v601) a + S1x64.size a ≤ S1000000x64.size a)
instance k0_chk333.dec : ∀ (v601 : BitVec 32), Decidable (k0_chk333 v601) := fun v601 => decidable_of_iff' _ (Iff.of_eq (k0_chk333.eq_1 v601))
theorem k0_off815_inb : ∀ (v601 : BitVec 32) (k0_hw333 : k0_chk333 v601), ∀ a, (k0_off815 v601) a + S1x64.size a ≤ S1000000x64.size a := fun v601 k0_hw333 => k0_hw333

def k0_off816 (k0_t10 : Fin k0_t10_loop.trips) (c1_i32_393 : BitVec 32) : Fin 2 → Nat :=
  let c0_i32_44 : BitVec 32 := 0#32
  let c1_i32_46 : BitVec 32 := 1#32
  let arg13 : BitVec 32 := Scf.iv c0_i32_44 c1_i32_46 k0_t10
  let c16_i32_381 : BitVec 32 := 16#32
  let v576 : BitVec 32 := Scalar.muli arg13 c16_i32_381
  let c7_i32 : BitVec 32 := 7#32
  let v577 : BitVec 32 := Scalar.addi v576 c7_i32
  let c5_i32_392 : BitVec 32 := 5#32
  let v602 : BitVec 32 := Scalar.muli v577 c5_i32_392
  let v603 : BitVec 32 := Scalar.addi v602 c1_i32_393
  let c0_i32_396 : BitVec 32 := 0#32
  ![v603.toNat, 0]
def k0_off817 (v613 : BitVec 32) : Fin 2 → Nat :=
  let c0_i32_401 : BitVec 32 := 0#32
  ![v613.toNat, 0]

def k0_chk334 (v613 : BitVec 32) : Prop :=
  (∀ a, (k0_off817 v613) a + S1x64.size a ≤ S1000000x64.size a)
instance k0_chk334.dec : ∀ (v613 : BitVec 32), Decidable (k0_chk334 v613) := fun v613 => decidable_of_iff' _ (Iff.of_eq (k0_chk334.eq_1 v613))
theorem k0_off817_inb : ∀ (v613 : BitVec 32) (k0_hw334 : k0_chk334 v613), ∀ a, (k0_off817 v613) a + S1x64.size a ≤ S1000000x64.size a := fun v613 k0_hw334 => k0_hw334

def k0_off818 (k0_t10 : Fin k0_t10_loop.trips) (c2_i32_399 : BitVec 32) : Fin 2 → Nat :=
  let c0_i32_44 : BitVec 32 := 0#32
  let c1_i32_46 : BitVec 32 := 1#32
  let arg13 : BitVec 32 := Scf.iv c0_i32_44 c1_i32_46 k0_t10
  let c16_i32_381 : BitVec 32 := 16#32
  let v576 : BitVec 32 := Scalar.muli arg13 c16_i32_381
  let c7_i32 : BitVec 32 := 7#32
  let v577 : BitVec 32 := Scalar.addi v576 c7_i32
  let c5_i32_398 : BitVec 32 := 5#32
  let v614 : BitVec 32 := Scalar.muli v577 c5_i32_398
  let v615 : BitVec 32 := Scalar.addi v614 c2_i32_399
  let c0_i32_402 : BitVec 32 := 0#32
  ![v615.toNat, 0]
def k0_off819 (v625 : BitVec 32) : Fin 2 → Nat :=
  let c0_i32_407 : BitVec 32 := 0#32
  ![v625.toNat, 0]

def k0_chk335 (v625 : BitVec 32) : Prop :=
  (∀ a, (k0_off819 v625) a + S1x64.size a ≤ S1000000x64.size a)
instance k0_chk335.dec : ∀ (v625 : BitVec 32), Decidable (k0_chk335 v625) := fun v625 => decidable_of_iff' _ (Iff.of_eq (k0_chk335.eq_1 v625))
theorem k0_off819_inb : ∀ (v625 : BitVec 32) (k0_hw335 : k0_chk335 v625), ∀ a, (k0_off819 v625) a + S1x64.size a ≤ S1000000x64.size a := fun v625 k0_hw335 => k0_hw335

def k0_off820 (k0_t10 : Fin k0_t10_loop.trips) (c3_i32_405 : BitVec 32) : Fin 2 → Nat :=
  let c0_i32_44 : BitVec 32 := 0#32
  let c1_i32_46 : BitVec 32 := 1#32
  let arg13 : BitVec 32 := Scf.iv c0_i32_44 c1_i32_46 k0_t10
  let c16_i32_381 : BitVec 32 := 16#32
  let v576 : BitVec 32 := Scalar.muli arg13 c16_i32_381
  let c7_i32 : BitVec 32 := 7#32
  let v577 : BitVec 32 := Scalar.addi v576 c7_i32
  let c5_i32_404 : BitVec 32 := 5#32
  let v626 : BitVec 32 := Scalar.muli v577 c5_i32_404
  let v627 : BitVec 32 := Scalar.addi v626 c3_i32_405
  let c0_i32_408 : BitVec 32 := 0#32
  ![v627.toNat, 0]
def k0_off821 (v637 : BitVec 32) : Fin 2 → Nat :=
  let c0_i32_413 : BitVec 32 := 0#32
  ![v637.toNat, 0]

def k0_chk336 (v637 : BitVec 32) : Prop :=
  (∀ a, (k0_off821 v637) a + S1x64.size a ≤ S1000000x64.size a)
instance k0_chk336.dec : ∀ (v637 : BitVec 32), Decidable (k0_chk336 v637) := fun v637 => decidable_of_iff' _ (Iff.of_eq (k0_chk336.eq_1 v637))
theorem k0_off821_inb : ∀ (v637 : BitVec 32) (k0_hw336 : k0_chk336 v637), ∀ a, (k0_off821 v637) a + S1x64.size a ≤ S1000000x64.size a := fun v637 k0_hw336 => k0_hw336

def k0_off822 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_381 : BitVec 32 := 16#32
  let v576 : BitVec 32 := Scalar.muli arg13 c16_i32_381
  let c7_i32 : BitVec 32 := 7#32
  let v577 : BitVec 32 := Scalar.addi v576 c7_i32
  let c5_i32_410 : BitVec 32 := 5#32
  let v638 : BitVec 32 := Scalar.muli v577 c5_i32_410
  let c4_i32_411 : BitVec 32 := 4#32
  let v639 : BitVec 32 := Scalar.addi v638 c4_i32_411
  let c0_i32_414 : BitVec 32 := 0#32
  ![v639.toNat, 0]
def k0_off823 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_416 : BitVec 32 := 16#32
  let v648 : BitVec 32 := Scalar.muli arg13 c16_i32_416
  let c8_i32 : BitVec 32 := 8#32
  let v649 : BitVec 32 := Scalar.addi v648 c8_i32
  let c0_i32_417 : BitVec 32 := 0#32
  ![v649.toNat, 0]
def k0_off824 (v651 : BitVec 32) : Fin 2 → Nat :=
  let c0_i32_418 : BitVec 32 := 0#32
  ![v651.toNat, 0]

def k0_chk337 (v651 : BitVec 32) : Prop :=
  (∀ a, (k0_off824 v651) a + S1x64.size a ≤ S1000000x64.size a)
instance k0_chk337.dec : ∀ (v651 : BitVec 32), Decidable (k0_chk337 v651) := fun v651 => decidable_of_iff' _ (Iff.of_eq (k0_chk337.eq_1 v651))
theorem k0_off824_inb : ∀ (v651 : BitVec 32) (k0_hw337 : k0_chk337 v651), ∀ a, (k0_off824 v651) a + S1x64.size a ≤ S1000000x64.size a := fun v651 k0_hw337 => k0_hw337

def k0_off825 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_416 : BitVec 32 := 16#32
  let v648 : BitVec 32 := Scalar.muli arg13 c16_i32_416
  let c8_i32 : BitVec 32 := 8#32
  let v649 : BitVec 32 := Scalar.addi v648 c8_i32
  let c0_i32_419 : BitVec 32 := 0#32
  ![v649.toNat, 0]
def k0_off826 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_416 : BitVec 32 := 16#32
  let v648 : BitVec 32 := Scalar.muli arg13 c16_i32_416
  let c8_i32 : BitVec 32 := 8#32
  let v649 : BitVec 32 := Scalar.addi v648 c8_i32
  let c5_i32_421 : BitVec 32 := 5#32
  let v662 : BitVec 32 := Scalar.muli v649 c5_i32_421
  let c0_i32_422 : BitVec 32 := 0#32
  let v663 : BitVec 32 := Scalar.addi v662 c0_i32_422
  let c0_i32_423 : BitVec 32 := 0#32
  ![v663.toNat, 0]
def k0_off827 (v661 : BitVec 32) : Fin 2 → Nat :=
  let c0_i32_424 : BitVec 32 := 0#32
  ![v661.toNat, 0]

def k0_chk338 (v661 : BitVec 32) : Prop :=
  (∀ a, (k0_off827 v661) a + S1x64.size a ≤ S1000000x64.size a)
instance k0_chk338.dec : ∀ (v661 : BitVec 32), Decidable (k0_chk338 v661) := fun v661 => decidable_of_iff' _ (Iff.of_eq (k0_chk338.eq_1 v661))
theorem k0_off827_inb : ∀ (v661 : BitVec 32) (k0_hw338 : k0_chk338 v661), ∀ a, (k0_off827 v661) a + S1x64.size a ≤ S1000000x64.size a := fun v661 k0_hw338 => k0_hw338

def k0_off828 (k0_t10 : Fin k0_t10_loop.trips) (c0_i32_422 : BitVec 32) : Fin 2 → Nat :=
  let c0_i32_44 : BitVec 32 := 0#32
  let c1_i32_46 : BitVec 32 := 1#32
  let arg13 : BitVec 32 := Scf.iv c0_i32_44 c1_i32_46 k0_t10
  let c16_i32_416 : BitVec 32 := 16#32
  let v648 : BitVec 32 := Scalar.muli arg13 c16_i32_416
  let c8_i32 : BitVec 32 := 8#32
  let v649 : BitVec 32 := Scalar.addi v648 c8_i32
  let c5_i32_421 : BitVec 32 := 5#32
  let v662 : BitVec 32 := Scalar.muli v649 c5_i32_421
  let v663 : BitVec 32 := Scalar.addi v662 c0_i32_422
  let c0_i32_425 : BitVec 32 := 0#32
  ![v663.toNat, 0]
def k0_off829 (v673 : BitVec 32) : Fin 2 → Nat :=
  let c0_i32_430 : BitVec 32 := 0#32
  ![v673.toNat, 0]

def k0_chk339 (v673 : BitVec 32) : Prop :=
  (∀ a, (k0_off829 v673) a + S1x64.size a ≤ S1000000x64.size a)
instance k0_chk339.dec : ∀ (v673 : BitVec 32), Decidable (k0_chk339 v673) := fun v673 => decidable_of_iff' _ (Iff.of_eq (k0_chk339.eq_1 v673))
theorem k0_off829_inb : ∀ (v673 : BitVec 32) (k0_hw339 : k0_chk339 v673), ∀ a, (k0_off829 v673) a + S1x64.size a ≤ S1000000x64.size a := fun v673 k0_hw339 => k0_hw339

def k0_off830 (k0_t10 : Fin k0_t10_loop.trips) (c1_i32_428 : BitVec 32) : Fin 2 → Nat :=
  let c0_i32_44 : BitVec 32 := 0#32
  let c1_i32_46 : BitVec 32 := 1#32
  let arg13 : BitVec 32 := Scf.iv c0_i32_44 c1_i32_46 k0_t10
  let c16_i32_416 : BitVec 32 := 16#32
  let v648 : BitVec 32 := Scalar.muli arg13 c16_i32_416
  let c8_i32 : BitVec 32 := 8#32
  let v649 : BitVec 32 := Scalar.addi v648 c8_i32
  let c5_i32_427 : BitVec 32 := 5#32
  let v674 : BitVec 32 := Scalar.muli v649 c5_i32_427
  let v675 : BitVec 32 := Scalar.addi v674 c1_i32_428
  let c0_i32_431 : BitVec 32 := 0#32
  ![v675.toNat, 0]
def k0_off831 (v685 : BitVec 32) : Fin 2 → Nat :=
  let c0_i32_436 : BitVec 32 := 0#32
  ![v685.toNat, 0]

def k0_chk340 (v685 : BitVec 32) : Prop :=
  (∀ a, (k0_off831 v685) a + S1x64.size a ≤ S1000000x64.size a)
instance k0_chk340.dec : ∀ (v685 : BitVec 32), Decidable (k0_chk340 v685) := fun v685 => decidable_of_iff' _ (Iff.of_eq (k0_chk340.eq_1 v685))
theorem k0_off831_inb : ∀ (v685 : BitVec 32) (k0_hw340 : k0_chk340 v685), ∀ a, (k0_off831 v685) a + S1x64.size a ≤ S1000000x64.size a := fun v685 k0_hw340 => k0_hw340

def k0_off832 (k0_t10 : Fin k0_t10_loop.trips) (c2_i32_434 : BitVec 32) : Fin 2 → Nat :=
  let c0_i32_44 : BitVec 32 := 0#32
  let c1_i32_46 : BitVec 32 := 1#32
  let arg13 : BitVec 32 := Scf.iv c0_i32_44 c1_i32_46 k0_t10
  let c16_i32_416 : BitVec 32 := 16#32
  let v648 : BitVec 32 := Scalar.muli arg13 c16_i32_416
  let c8_i32 : BitVec 32 := 8#32
  let v649 : BitVec 32 := Scalar.addi v648 c8_i32
  let c5_i32_433 : BitVec 32 := 5#32
  let v686 : BitVec 32 := Scalar.muli v649 c5_i32_433
  let v687 : BitVec 32 := Scalar.addi v686 c2_i32_434
  let c0_i32_437 : BitVec 32 := 0#32
  ![v687.toNat, 0]
def k0_off833 (v697 : BitVec 32) : Fin 2 → Nat :=
  let c0_i32_442 : BitVec 32 := 0#32
  ![v697.toNat, 0]

def k0_chk341 (v697 : BitVec 32) : Prop :=
  (∀ a, (k0_off833 v697) a + S1x64.size a ≤ S1000000x64.size a)
instance k0_chk341.dec : ∀ (v697 : BitVec 32), Decidable (k0_chk341 v697) := fun v697 => decidable_of_iff' _ (Iff.of_eq (k0_chk341.eq_1 v697))
theorem k0_off833_inb : ∀ (v697 : BitVec 32) (k0_hw341 : k0_chk341 v697), ∀ a, (k0_off833 v697) a + S1x64.size a ≤ S1000000x64.size a := fun v697 k0_hw341 => k0_hw341

def k0_off834 (k0_t10 : Fin k0_t10_loop.trips) (c3_i32_440 : BitVec 32) : Fin 2 → Nat :=
  let c0_i32_44 : BitVec 32 := 0#32
  let c1_i32_46 : BitVec 32 := 1#32
  let arg13 : BitVec 32 := Scf.iv c0_i32_44 c1_i32_46 k0_t10
  let c16_i32_416 : BitVec 32 := 16#32
  let v648 : BitVec 32 := Scalar.muli arg13 c16_i32_416
  let c8_i32 : BitVec 32 := 8#32
  let v649 : BitVec 32 := Scalar.addi v648 c8_i32
  let c5_i32_439 : BitVec 32 := 5#32
  let v698 : BitVec 32 := Scalar.muli v649 c5_i32_439
  let v699 : BitVec 32 := Scalar.addi v698 c3_i32_440
  let c0_i32_443 : BitVec 32 := 0#32
  ![v699.toNat, 0]
def k0_off835 (v709 : BitVec 32) : Fin 2 → Nat :=
  let c0_i32_448 : BitVec 32 := 0#32
  ![v709.toNat, 0]

def k0_chk342 (v709 : BitVec 32) : Prop :=
  (∀ a, (k0_off835 v709) a + S1x64.size a ≤ S1000000x64.size a)
instance k0_chk342.dec : ∀ (v709 : BitVec 32), Decidable (k0_chk342 v709) := fun v709 => decidable_of_iff' _ (Iff.of_eq (k0_chk342.eq_1 v709))
theorem k0_off835_inb : ∀ (v709 : BitVec 32) (k0_hw342 : k0_chk342 v709), ∀ a, (k0_off835 v709) a + S1x64.size a ≤ S1000000x64.size a := fun v709 k0_hw342 => k0_hw342

def k0_off836 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_416 : BitVec 32 := 16#32
  let v648 : BitVec 32 := Scalar.muli arg13 c16_i32_416
  let c8_i32 : BitVec 32 := 8#32
  let v649 : BitVec 32 := Scalar.addi v648 c8_i32
  let c5_i32_445 : BitVec 32 := 5#32
  let v710 : BitVec 32 := Scalar.muli v649 c5_i32_445
  let c4_i32_446 : BitVec 32 := 4#32
  let v711 : BitVec 32 := Scalar.addi v710 c4_i32_446
  let c0_i32_449 : BitVec 32 := 0#32
  ![v711.toNat, 0]
def k0_off837 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_451 : BitVec 32 := 16#32
  let v720 : BitVec 32 := Scalar.muli arg13 c16_i32_451
  let c9_i32 : BitVec 32 := 9#32
  let v721 : BitVec 32 := Scalar.addi v720 c9_i32
  let c0_i32_452 : BitVec 32 := 0#32
  ![v721.toNat, 0]
def k0_off838 (v723 : BitVec 32) : Fin 2 → Nat :=
  let c0_i32_453 : BitVec 32 := 0#32
  ![v723.toNat, 0]

def k0_chk343 (v723 : BitVec 32) : Prop :=
  (∀ a, (k0_off838 v723) a + S1x64.size a ≤ S1000000x64.size a)
instance k0_chk343.dec : ∀ (v723 : BitVec 32), Decidable (k0_chk343 v723) := fun v723 => decidable_of_iff' _ (Iff.of_eq (k0_chk343.eq_1 v723))
theorem k0_off838_inb : ∀ (v723 : BitVec 32) (k0_hw343 : k0_chk343 v723), ∀ a, (k0_off838 v723) a + S1x64.size a ≤ S1000000x64.size a := fun v723 k0_hw343 => k0_hw343

def k0_off839 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_451 : BitVec 32 := 16#32
  let v720 : BitVec 32 := Scalar.muli arg13 c16_i32_451
  let c9_i32 : BitVec 32 := 9#32
  let v721 : BitVec 32 := Scalar.addi v720 c9_i32
  let c0_i32_454 : BitVec 32 := 0#32
  ![v721.toNat, 0]
def k0_off840 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_451 : BitVec 32 := 16#32
  let v720 : BitVec 32 := Scalar.muli arg13 c16_i32_451
  let c9_i32 : BitVec 32 := 9#32
  let v721 : BitVec 32 := Scalar.addi v720 c9_i32
  let c5_i32_456 : BitVec 32 := 5#32
  let v734 : BitVec 32 := Scalar.muli v721 c5_i32_456
  let c0_i32_457 : BitVec 32 := 0#32
  let v735 : BitVec 32 := Scalar.addi v734 c0_i32_457
  let c0_i32_458 : BitVec 32 := 0#32
  ![v735.toNat, 0]
def k0_off841 (v733 : BitVec 32) : Fin 2 → Nat :=
  let c0_i32_459 : BitVec 32 := 0#32
  ![v733.toNat, 0]

def k0_chk344 (v733 : BitVec 32) : Prop :=
  (∀ a, (k0_off841 v733) a + S1x64.size a ≤ S1000000x64.size a)
instance k0_chk344.dec : ∀ (v733 : BitVec 32), Decidable (k0_chk344 v733) := fun v733 => decidable_of_iff' _ (Iff.of_eq (k0_chk344.eq_1 v733))
theorem k0_off841_inb : ∀ (v733 : BitVec 32) (k0_hw344 : k0_chk344 v733), ∀ a, (k0_off841 v733) a + S1x64.size a ≤ S1000000x64.size a := fun v733 k0_hw344 => k0_hw344

def k0_off842 (k0_t10 : Fin k0_t10_loop.trips) (c0_i32_457 : BitVec 32) : Fin 2 → Nat :=
  let c0_i32_44 : BitVec 32 := 0#32
  let c1_i32_46 : BitVec 32 := 1#32
  let arg13 : BitVec 32 := Scf.iv c0_i32_44 c1_i32_46 k0_t10
  let c16_i32_451 : BitVec 32 := 16#32
  let v720 : BitVec 32 := Scalar.muli arg13 c16_i32_451
  let c9_i32 : BitVec 32 := 9#32
  let v721 : BitVec 32 := Scalar.addi v720 c9_i32
  let c5_i32_456 : BitVec 32 := 5#32
  let v734 : BitVec 32 := Scalar.muli v721 c5_i32_456
  let v735 : BitVec 32 := Scalar.addi v734 c0_i32_457
  let c0_i32_460 : BitVec 32 := 0#32
  ![v735.toNat, 0]
def k0_off843 (v745 : BitVec 32) : Fin 2 → Nat :=
  let c0_i32_465 : BitVec 32 := 0#32
  ![v745.toNat, 0]

def k0_chk345 (v745 : BitVec 32) : Prop :=
  (∀ a, (k0_off843 v745) a + S1x64.size a ≤ S1000000x64.size a)
instance k0_chk345.dec : ∀ (v745 : BitVec 32), Decidable (k0_chk345 v745) := fun v745 => decidable_of_iff' _ (Iff.of_eq (k0_chk345.eq_1 v745))
theorem k0_off843_inb : ∀ (v745 : BitVec 32) (k0_hw345 : k0_chk345 v745), ∀ a, (k0_off843 v745) a + S1x64.size a ≤ S1000000x64.size a := fun v745 k0_hw345 => k0_hw345

def k0_off844 (k0_t10 : Fin k0_t10_loop.trips) (c1_i32_463 : BitVec 32) : Fin 2 → Nat :=
  let c0_i32_44 : BitVec 32 := 0#32
  let c1_i32_46 : BitVec 32 := 1#32
  let arg13 : BitVec 32 := Scf.iv c0_i32_44 c1_i32_46 k0_t10
  let c16_i32_451 : BitVec 32 := 16#32
  let v720 : BitVec 32 := Scalar.muli arg13 c16_i32_451
  let c9_i32 : BitVec 32 := 9#32
  let v721 : BitVec 32 := Scalar.addi v720 c9_i32
  let c5_i32_462 : BitVec 32 := 5#32
  let v746 : BitVec 32 := Scalar.muli v721 c5_i32_462
  let v747 : BitVec 32 := Scalar.addi v746 c1_i32_463
  let c0_i32_466 : BitVec 32 := 0#32
  ![v747.toNat, 0]
def k0_off845 (v757 : BitVec 32) : Fin 2 → Nat :=
  let c0_i32_471 : BitVec 32 := 0#32
  ![v757.toNat, 0]

def k0_chk346 (v757 : BitVec 32) : Prop :=
  (∀ a, (k0_off845 v757) a + S1x64.size a ≤ S1000000x64.size a)
instance k0_chk346.dec : ∀ (v757 : BitVec 32), Decidable (k0_chk346 v757) := fun v757 => decidable_of_iff' _ (Iff.of_eq (k0_chk346.eq_1 v757))
theorem k0_off845_inb : ∀ (v757 : BitVec 32) (k0_hw346 : k0_chk346 v757), ∀ a, (k0_off845 v757) a + S1x64.size a ≤ S1000000x64.size a := fun v757 k0_hw346 => k0_hw346

def k0_off846 (k0_t10 : Fin k0_t10_loop.trips) (c2_i32_469 : BitVec 32) : Fin 2 → Nat :=
  let c0_i32_44 : BitVec 32 := 0#32
  let c1_i32_46 : BitVec 32 := 1#32
  let arg13 : BitVec 32 := Scf.iv c0_i32_44 c1_i32_46 k0_t10
  let c16_i32_451 : BitVec 32 := 16#32
  let v720 : BitVec 32 := Scalar.muli arg13 c16_i32_451
  let c9_i32 : BitVec 32 := 9#32
  let v721 : BitVec 32 := Scalar.addi v720 c9_i32
  let c5_i32_468 : BitVec 32 := 5#32
  let v758 : BitVec 32 := Scalar.muli v721 c5_i32_468
  let v759 : BitVec 32 := Scalar.addi v758 c2_i32_469
  let c0_i32_472 : BitVec 32 := 0#32
  ![v759.toNat, 0]
def k0_off847 (v769 : BitVec 32) : Fin 2 → Nat :=
  let c0_i32_477 : BitVec 32 := 0#32
  ![v769.toNat, 0]

def k0_chk347 (v769 : BitVec 32) : Prop :=
  (∀ a, (k0_off847 v769) a + S1x64.size a ≤ S1000000x64.size a)
instance k0_chk347.dec : ∀ (v769 : BitVec 32), Decidable (k0_chk347 v769) := fun v769 => decidable_of_iff' _ (Iff.of_eq (k0_chk347.eq_1 v769))
theorem k0_off847_inb : ∀ (v769 : BitVec 32) (k0_hw347 : k0_chk347 v769), ∀ a, (k0_off847 v769) a + S1x64.size a ≤ S1000000x64.size a := fun v769 k0_hw347 => k0_hw347

def k0_off848 (k0_t10 : Fin k0_t10_loop.trips) (c3_i32_475 : BitVec 32) : Fin 2 → Nat :=
  let c0_i32_44 : BitVec 32 := 0#32
  let c1_i32_46 : BitVec 32 := 1#32
  let arg13 : BitVec 32 := Scf.iv c0_i32_44 c1_i32_46 k0_t10
  let c16_i32_451 : BitVec 32 := 16#32
  let v720 : BitVec 32 := Scalar.muli arg13 c16_i32_451
  let c9_i32 : BitVec 32 := 9#32
  let v721 : BitVec 32 := Scalar.addi v720 c9_i32
  let c5_i32_474 : BitVec 32 := 5#32
  let v770 : BitVec 32 := Scalar.muli v721 c5_i32_474
  let v771 : BitVec 32 := Scalar.addi v770 c3_i32_475
  let c0_i32_478 : BitVec 32 := 0#32
  ![v771.toNat, 0]
def k0_off849 (v781 : BitVec 32) : Fin 2 → Nat :=
  let c0_i32_483 : BitVec 32 := 0#32
  ![v781.toNat, 0]

def k0_chk348 (v781 : BitVec 32) : Prop :=
  (∀ a, (k0_off849 v781) a + S1x64.size a ≤ S1000000x64.size a)
instance k0_chk348.dec : ∀ (v781 : BitVec 32), Decidable (k0_chk348 v781) := fun v781 => decidable_of_iff' _ (Iff.of_eq (k0_chk348.eq_1 v781))
theorem k0_off849_inb : ∀ (v781 : BitVec 32) (k0_hw348 : k0_chk348 v781), ∀ a, (k0_off849 v781) a + S1x64.size a ≤ S1000000x64.size a := fun v781 k0_hw348 => k0_hw348

def k0_off850 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_451 : BitVec 32 := 16#32
  let v720 : BitVec 32 := Scalar.muli arg13 c16_i32_451
  let c9_i32 : BitVec 32 := 9#32
  let v721 : BitVec 32 := Scalar.addi v720 c9_i32
  let c5_i32_480 : BitVec 32 := 5#32
  let v782 : BitVec 32 := Scalar.muli v721 c5_i32_480
  let c4_i32_481 : BitVec 32 := 4#32
  let v783 : BitVec 32 := Scalar.addi v782 c4_i32_481
  let c0_i32_484 : BitVec 32 := 0#32
  ![v783.toNat, 0]
def k0_off851 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_486 : BitVec 32 := 16#32
  let v792 : BitVec 32 := Scalar.muli arg13 c16_i32_486
  let c10_i32 : BitVec 32 := 10#32
  let v793 : BitVec 32 := Scalar.addi v792 c10_i32
  let c0_i32_487 : BitVec 32 := 0#32
  ![v793.toNat, 0]
def k0_off852 (v795 : BitVec 32) : Fin 2 → Nat :=
  let c0_i32_488 : BitVec 32 := 0#32
  ![v795.toNat, 0]

def k0_chk349 (v795 : BitVec 32) : Prop :=
  (∀ a, (k0_off852 v795) a + S1x64.size a ≤ S1000000x64.size a)
instance k0_chk349.dec : ∀ (v795 : BitVec 32), Decidable (k0_chk349 v795) := fun v795 => decidable_of_iff' _ (Iff.of_eq (k0_chk349.eq_1 v795))
theorem k0_off852_inb : ∀ (v795 : BitVec 32) (k0_hw349 : k0_chk349 v795), ∀ a, (k0_off852 v795) a + S1x64.size a ≤ S1000000x64.size a := fun v795 k0_hw349 => k0_hw349

def k0_off853 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_486 : BitVec 32 := 16#32
  let v792 : BitVec 32 := Scalar.muli arg13 c16_i32_486
  let c10_i32 : BitVec 32 := 10#32
  let v793 : BitVec 32 := Scalar.addi v792 c10_i32
  let c0_i32_489 : BitVec 32 := 0#32
  ![v793.toNat, 0]
def k0_off854 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_486 : BitVec 32 := 16#32
  let v792 : BitVec 32 := Scalar.muli arg13 c16_i32_486
  let c10_i32 : BitVec 32 := 10#32
  let v793 : BitVec 32 := Scalar.addi v792 c10_i32
  let c5_i32_491 : BitVec 32 := 5#32
  let v806 : BitVec 32 := Scalar.muli v793 c5_i32_491
  let c0_i32_492 : BitVec 32 := 0#32
  let v807 : BitVec 32 := Scalar.addi v806 c0_i32_492
  let c0_i32_493 : BitVec 32 := 0#32
  ![v807.toNat, 0]
def k0_off855 (v805 : BitVec 32) : Fin 2 → Nat :=
  let c0_i32_494 : BitVec 32 := 0#32
  ![v805.toNat, 0]

def k0_chk350 (v805 : BitVec 32) : Prop :=
  (∀ a, (k0_off855 v805) a + S1x64.size a ≤ S1000000x64.size a)
instance k0_chk350.dec : ∀ (v805 : BitVec 32), Decidable (k0_chk350 v805) := fun v805 => decidable_of_iff' _ (Iff.of_eq (k0_chk350.eq_1 v805))
theorem k0_off855_inb : ∀ (v805 : BitVec 32) (k0_hw350 : k0_chk350 v805), ∀ a, (k0_off855 v805) a + S1x64.size a ≤ S1000000x64.size a := fun v805 k0_hw350 => k0_hw350

def k0_off856 (k0_t10 : Fin k0_t10_loop.trips) (c0_i32_492 : BitVec 32) : Fin 2 → Nat :=
  let c0_i32_44 : BitVec 32 := 0#32
  let c1_i32_46 : BitVec 32 := 1#32
  let arg13 : BitVec 32 := Scf.iv c0_i32_44 c1_i32_46 k0_t10
  let c16_i32_486 : BitVec 32 := 16#32
  let v792 : BitVec 32 := Scalar.muli arg13 c16_i32_486
  let c10_i32 : BitVec 32 := 10#32
  let v793 : BitVec 32 := Scalar.addi v792 c10_i32
  let c5_i32_491 : BitVec 32 := 5#32
  let v806 : BitVec 32 := Scalar.muli v793 c5_i32_491
  let v807 : BitVec 32 := Scalar.addi v806 c0_i32_492
  let c0_i32_495 : BitVec 32 := 0#32
  ![v807.toNat, 0]
def k0_off857 (v817 : BitVec 32) : Fin 2 → Nat :=
  let c0_i32_500 : BitVec 32 := 0#32
  ![v817.toNat, 0]

def k0_chk351 (v817 : BitVec 32) : Prop :=
  (∀ a, (k0_off857 v817) a + S1x64.size a ≤ S1000000x64.size a)
instance k0_chk351.dec : ∀ (v817 : BitVec 32), Decidable (k0_chk351 v817) := fun v817 => decidable_of_iff' _ (Iff.of_eq (k0_chk351.eq_1 v817))
theorem k0_off857_inb : ∀ (v817 : BitVec 32) (k0_hw351 : k0_chk351 v817), ∀ a, (k0_off857 v817) a + S1x64.size a ≤ S1000000x64.size a := fun v817 k0_hw351 => k0_hw351

def k0_off858 (k0_t10 : Fin k0_t10_loop.trips) (c1_i32_498 : BitVec 32) : Fin 2 → Nat :=
  let c0_i32_44 : BitVec 32 := 0#32
  let c1_i32_46 : BitVec 32 := 1#32
  let arg13 : BitVec 32 := Scf.iv c0_i32_44 c1_i32_46 k0_t10
  let c16_i32_486 : BitVec 32 := 16#32
  let v792 : BitVec 32 := Scalar.muli arg13 c16_i32_486
  let c10_i32 : BitVec 32 := 10#32
  let v793 : BitVec 32 := Scalar.addi v792 c10_i32
  let c5_i32_497 : BitVec 32 := 5#32
  let v818 : BitVec 32 := Scalar.muli v793 c5_i32_497
  let v819 : BitVec 32 := Scalar.addi v818 c1_i32_498
  let c0_i32_501 : BitVec 32 := 0#32
  ![v819.toNat, 0]
def k0_off859 (v829 : BitVec 32) : Fin 2 → Nat :=
  let c0_i32_506 : BitVec 32 := 0#32
  ![v829.toNat, 0]

def k0_chk352 (v829 : BitVec 32) : Prop :=
  (∀ a, (k0_off859 v829) a + S1x64.size a ≤ S1000000x64.size a)
instance k0_chk352.dec : ∀ (v829 : BitVec 32), Decidable (k0_chk352 v829) := fun v829 => decidable_of_iff' _ (Iff.of_eq (k0_chk352.eq_1 v829))
theorem k0_off859_inb : ∀ (v829 : BitVec 32) (k0_hw352 : k0_chk352 v829), ∀ a, (k0_off859 v829) a + S1x64.size a ≤ S1000000x64.size a := fun v829 k0_hw352 => k0_hw352

def k0_off860 (k0_t10 : Fin k0_t10_loop.trips) (c2_i32_504 : BitVec 32) : Fin 2 → Nat :=
  let c0_i32_44 : BitVec 32 := 0#32
  let c1_i32_46 : BitVec 32 := 1#32
  let arg13 : BitVec 32 := Scf.iv c0_i32_44 c1_i32_46 k0_t10
  let c16_i32_486 : BitVec 32 := 16#32
  let v792 : BitVec 32 := Scalar.muli arg13 c16_i32_486
  let c10_i32 : BitVec 32 := 10#32
  let v793 : BitVec 32 := Scalar.addi v792 c10_i32
  let c5_i32_503 : BitVec 32 := 5#32
  let v830 : BitVec 32 := Scalar.muli v793 c5_i32_503
  let v831 : BitVec 32 := Scalar.addi v830 c2_i32_504
  let c0_i32_507 : BitVec 32 := 0#32
  ![v831.toNat, 0]
def k0_off861 (v841 : BitVec 32) : Fin 2 → Nat :=
  let c0_i32_512 : BitVec 32 := 0#32
  ![v841.toNat, 0]

def k0_chk353 (v841 : BitVec 32) : Prop :=
  (∀ a, (k0_off861 v841) a + S1x64.size a ≤ S1000000x64.size a)
instance k0_chk353.dec : ∀ (v841 : BitVec 32), Decidable (k0_chk353 v841) := fun v841 => decidable_of_iff' _ (Iff.of_eq (k0_chk353.eq_1 v841))
theorem k0_off861_inb : ∀ (v841 : BitVec 32) (k0_hw353 : k0_chk353 v841), ∀ a, (k0_off861 v841) a + S1x64.size a ≤ S1000000x64.size a := fun v841 k0_hw353 => k0_hw353

def k0_off862 (k0_t10 : Fin k0_t10_loop.trips) (c3_i32_510 : BitVec 32) : Fin 2 → Nat :=
  let c0_i32_44 : BitVec 32 := 0#32
  let c1_i32_46 : BitVec 32 := 1#32
  let arg13 : BitVec 32 := Scf.iv c0_i32_44 c1_i32_46 k0_t10
  let c16_i32_486 : BitVec 32 := 16#32
  let v792 : BitVec 32 := Scalar.muli arg13 c16_i32_486
  let c10_i32 : BitVec 32 := 10#32
  let v793 : BitVec 32 := Scalar.addi v792 c10_i32
  let c5_i32_509 : BitVec 32 := 5#32
  let v842 : BitVec 32 := Scalar.muli v793 c5_i32_509
  let v843 : BitVec 32 := Scalar.addi v842 c3_i32_510
  let c0_i32_513 : BitVec 32 := 0#32
  ![v843.toNat, 0]
def k0_off863 (v853 : BitVec 32) : Fin 2 → Nat :=
  let c0_i32_518 : BitVec 32 := 0#32
  ![v853.toNat, 0]

def k0_chk354 (v853 : BitVec 32) : Prop :=
  (∀ a, (k0_off863 v853) a + S1x64.size a ≤ S1000000x64.size a)
instance k0_chk354.dec : ∀ (v853 : BitVec 32), Decidable (k0_chk354 v853) := fun v853 => decidable_of_iff' _ (Iff.of_eq (k0_chk354.eq_1 v853))
theorem k0_off863_inb : ∀ (v853 : BitVec 32) (k0_hw354 : k0_chk354 v853), ∀ a, (k0_off863 v853) a + S1x64.size a ≤ S1000000x64.size a := fun v853 k0_hw354 => k0_hw354

def k0_off864 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_486 : BitVec 32 := 16#32
  let v792 : BitVec 32 := Scalar.muli arg13 c16_i32_486
  let c10_i32 : BitVec 32 := 10#32
  let v793 : BitVec 32 := Scalar.addi v792 c10_i32
  let c5_i32_515 : BitVec 32 := 5#32
  let v854 : BitVec 32 := Scalar.muli v793 c5_i32_515
  let c4_i32_516 : BitVec 32 := 4#32
  let v855 : BitVec 32 := Scalar.addi v854 c4_i32_516
  let c0_i32_519 : BitVec 32 := 0#32
  ![v855.toNat, 0]
def k0_off865 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_521 : BitVec 32 := 16#32
  let v864 : BitVec 32 := Scalar.muli arg13 c16_i32_521
  let c11_i32 : BitVec 32 := 11#32
  let v865 : BitVec 32 := Scalar.addi v864 c11_i32
  let c0_i32_522 : BitVec 32 := 0#32
  ![v865.toNat, 0]
def k0_off866 (v867 : BitVec 32) : Fin 2 → Nat :=
  let c0_i32_523 : BitVec 32 := 0#32
  ![v867.toNat, 0]

def k0_chk355 (v867 : BitVec 32) : Prop :=
  (∀ a, (k0_off866 v867) a + S1x64.size a ≤ S1000000x64.size a)
instance k0_chk355.dec : ∀ (v867 : BitVec 32), Decidable (k0_chk355 v867) := fun v867 => decidable_of_iff' _ (Iff.of_eq (k0_chk355.eq_1 v867))
theorem k0_off866_inb : ∀ (v867 : BitVec 32) (k0_hw355 : k0_chk355 v867), ∀ a, (k0_off866 v867) a + S1x64.size a ≤ S1000000x64.size a := fun v867 k0_hw355 => k0_hw355

def k0_off867 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_521 : BitVec 32 := 16#32
  let v864 : BitVec 32 := Scalar.muli arg13 c16_i32_521
  let c11_i32 : BitVec 32 := 11#32
  let v865 : BitVec 32 := Scalar.addi v864 c11_i32
  let c0_i32_524 : BitVec 32 := 0#32
  ![v865.toNat, 0]
def k0_off868 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_521 : BitVec 32 := 16#32
  let v864 : BitVec 32 := Scalar.muli arg13 c16_i32_521
  let c11_i32 : BitVec 32 := 11#32
  let v865 : BitVec 32 := Scalar.addi v864 c11_i32
  let c5_i32_526 : BitVec 32 := 5#32
  let v878 : BitVec 32 := Scalar.muli v865 c5_i32_526
  let c0_i32_527 : BitVec 32 := 0#32
  let v879 : BitVec 32 := Scalar.addi v878 c0_i32_527
  let c0_i32_528 : BitVec 32 := 0#32
  ![v879.toNat, 0]
def k0_off869 (v877 : BitVec 32) : Fin 2 → Nat :=
  let c0_i32_529 : BitVec 32 := 0#32
  ![v877.toNat, 0]

def k0_chk356 (v877 : BitVec 32) : Prop :=
  (∀ a, (k0_off869 v877) a + S1x64.size a ≤ S1000000x64.size a)
instance k0_chk356.dec : ∀ (v877 : BitVec 32), Decidable (k0_chk356 v877) := fun v877 => decidable_of_iff' _ (Iff.of_eq (k0_chk356.eq_1 v877))
theorem k0_off869_inb : ∀ (v877 : BitVec 32) (k0_hw356 : k0_chk356 v877), ∀ a, (k0_off869 v877) a + S1x64.size a ≤ S1000000x64.size a := fun v877 k0_hw356 => k0_hw356

def k0_off870 (k0_t10 : Fin k0_t10_loop.trips) (c0_i32_527 : BitVec 32) : Fin 2 → Nat :=
  let c0_i32_44 : BitVec 32 := 0#32
  let c1_i32_46 : BitVec 32 := 1#32
  let arg13 : BitVec 32 := Scf.iv c0_i32_44 c1_i32_46 k0_t10
  let c16_i32_521 : BitVec 32 := 16#32
  let v864 : BitVec 32 := Scalar.muli arg13 c16_i32_521
  let c11_i32 : BitVec 32 := 11#32
  let v865 : BitVec 32 := Scalar.addi v864 c11_i32
  let c5_i32_526 : BitVec 32 := 5#32
  let v878 : BitVec 32 := Scalar.muli v865 c5_i32_526
  let v879 : BitVec 32 := Scalar.addi v878 c0_i32_527
  let c0_i32_530 : BitVec 32 := 0#32
  ![v879.toNat, 0]
def k0_off871 (v889 : BitVec 32) : Fin 2 → Nat :=
  let c0_i32_535 : BitVec 32 := 0#32
  ![v889.toNat, 0]

def k0_chk357 (v889 : BitVec 32) : Prop :=
  (∀ a, (k0_off871 v889) a + S1x64.size a ≤ S1000000x64.size a)
instance k0_chk357.dec : ∀ (v889 : BitVec 32), Decidable (k0_chk357 v889) := fun v889 => decidable_of_iff' _ (Iff.of_eq (k0_chk357.eq_1 v889))
theorem k0_off871_inb : ∀ (v889 : BitVec 32) (k0_hw357 : k0_chk357 v889), ∀ a, (k0_off871 v889) a + S1x64.size a ≤ S1000000x64.size a := fun v889 k0_hw357 => k0_hw357

def k0_off872 (k0_t10 : Fin k0_t10_loop.trips) (c1_i32_533 : BitVec 32) : Fin 2 → Nat :=
  let c0_i32_44 : BitVec 32 := 0#32
  let c1_i32_46 : BitVec 32 := 1#32
  let arg13 : BitVec 32 := Scf.iv c0_i32_44 c1_i32_46 k0_t10
  let c16_i32_521 : BitVec 32 := 16#32
  let v864 : BitVec 32 := Scalar.muli arg13 c16_i32_521
  let c11_i32 : BitVec 32 := 11#32
  let v865 : BitVec 32 := Scalar.addi v864 c11_i32
  let c5_i32_532 : BitVec 32 := 5#32
  let v890 : BitVec 32 := Scalar.muli v865 c5_i32_532
  let v891 : BitVec 32 := Scalar.addi v890 c1_i32_533
  let c0_i32_536 : BitVec 32 := 0#32
  ![v891.toNat, 0]
def k0_off873 (v901 : BitVec 32) : Fin 2 → Nat :=
  let c0_i32_541 : BitVec 32 := 0#32
  ![v901.toNat, 0]

def k0_chk358 (v901 : BitVec 32) : Prop :=
  (∀ a, (k0_off873 v901) a + S1x64.size a ≤ S1000000x64.size a)
instance k0_chk358.dec : ∀ (v901 : BitVec 32), Decidable (k0_chk358 v901) := fun v901 => decidable_of_iff' _ (Iff.of_eq (k0_chk358.eq_1 v901))
theorem k0_off873_inb : ∀ (v901 : BitVec 32) (k0_hw358 : k0_chk358 v901), ∀ a, (k0_off873 v901) a + S1x64.size a ≤ S1000000x64.size a := fun v901 k0_hw358 => k0_hw358

def k0_off874 (k0_t10 : Fin k0_t10_loop.trips) (c2_i32_539 : BitVec 32) : Fin 2 → Nat :=
  let c0_i32_44 : BitVec 32 := 0#32
  let c1_i32_46 : BitVec 32 := 1#32
  let arg13 : BitVec 32 := Scf.iv c0_i32_44 c1_i32_46 k0_t10
  let c16_i32_521 : BitVec 32 := 16#32
  let v864 : BitVec 32 := Scalar.muli arg13 c16_i32_521
  let c11_i32 : BitVec 32 := 11#32
  let v865 : BitVec 32 := Scalar.addi v864 c11_i32
  let c5_i32_538 : BitVec 32 := 5#32
  let v902 : BitVec 32 := Scalar.muli v865 c5_i32_538
  let v903 : BitVec 32 := Scalar.addi v902 c2_i32_539
  let c0_i32_542 : BitVec 32 := 0#32
  ![v903.toNat, 0]
def k0_off875 (v913 : BitVec 32) : Fin 2 → Nat :=
  let c0_i32_547 : BitVec 32 := 0#32
  ![v913.toNat, 0]

def k0_chk359 (v913 : BitVec 32) : Prop :=
  (∀ a, (k0_off875 v913) a + S1x64.size a ≤ S1000000x64.size a)
instance k0_chk359.dec : ∀ (v913 : BitVec 32), Decidable (k0_chk359 v913) := fun v913 => decidable_of_iff' _ (Iff.of_eq (k0_chk359.eq_1 v913))
theorem k0_off875_inb : ∀ (v913 : BitVec 32) (k0_hw359 : k0_chk359 v913), ∀ a, (k0_off875 v913) a + S1x64.size a ≤ S1000000x64.size a := fun v913 k0_hw359 => k0_hw359

def k0_off876 (k0_t10 : Fin k0_t10_loop.trips) (c3_i32_545 : BitVec 32) : Fin 2 → Nat :=
  let c0_i32_44 : BitVec 32 := 0#32
  let c1_i32_46 : BitVec 32 := 1#32
  let arg13 : BitVec 32 := Scf.iv c0_i32_44 c1_i32_46 k0_t10
  let c16_i32_521 : BitVec 32 := 16#32
  let v864 : BitVec 32 := Scalar.muli arg13 c16_i32_521
  let c11_i32 : BitVec 32 := 11#32
  let v865 : BitVec 32 := Scalar.addi v864 c11_i32
  let c5_i32_544 : BitVec 32 := 5#32
  let v914 : BitVec 32 := Scalar.muli v865 c5_i32_544
  let v915 : BitVec 32 := Scalar.addi v914 c3_i32_545
  let c0_i32_548 : BitVec 32 := 0#32
  ![v915.toNat, 0]
def k0_off877 (v925 : BitVec 32) : Fin 2 → Nat :=
  let c0_i32_553 : BitVec 32 := 0#32
  ![v925.toNat, 0]

def k0_chk360 (v925 : BitVec 32) : Prop :=
  (∀ a, (k0_off877 v925) a + S1x64.size a ≤ S1000000x64.size a)
instance k0_chk360.dec : ∀ (v925 : BitVec 32), Decidable (k0_chk360 v925) := fun v925 => decidable_of_iff' _ (Iff.of_eq (k0_chk360.eq_1 v925))
theorem k0_off877_inb : ∀ (v925 : BitVec 32) (k0_hw360 : k0_chk360 v925), ∀ a, (k0_off877 v925) a + S1x64.size a ≤ S1000000x64.size a := fun v925 k0_hw360 => k0_hw360

def k0_off878 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_521 : BitVec 32 := 16#32
  let v864 : BitVec 32 := Scalar.muli arg13 c16_i32_521
  let c11_i32 : BitVec 32 := 11#32
  let v865 : BitVec 32 := Scalar.addi v864 c11_i32
  let c5_i32_550 : BitVec 32 := 5#32
  let v926 : BitVec 32 := Scalar.muli v865 c5_i32_550
  let c4_i32_551 : BitVec 32 := 4#32
  let v927 : BitVec 32 := Scalar.addi v926 c4_i32_551
  let c0_i32_554 : BitVec 32 := 0#32
  ![v927.toNat, 0]
def k0_off879 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_556 : BitVec 32 := 16#32
  let v936 : BitVec 32 := Scalar.muli arg13 c16_i32_556
  let c12_i32 : BitVec 32 := 12#32
  let v937 : BitVec 32 := Scalar.addi v936 c12_i32
  let c0_i32_557 : BitVec 32 := 0#32
  ![v937.toNat, 0]
def k0_off880 (v939 : BitVec 32) : Fin 2 → Nat :=
  let c0_i32_558 : BitVec 32 := 0#32
  ![v939.toNat, 0]

def k0_chk361 (v939 : BitVec 32) : Prop :=
  (∀ a, (k0_off880 v939) a + S1x64.size a ≤ S1000000x64.size a)
instance k0_chk361.dec : ∀ (v939 : BitVec 32), Decidable (k0_chk361 v939) := fun v939 => decidable_of_iff' _ (Iff.of_eq (k0_chk361.eq_1 v939))
theorem k0_off880_inb : ∀ (v939 : BitVec 32) (k0_hw361 : k0_chk361 v939), ∀ a, (k0_off880 v939) a + S1x64.size a ≤ S1000000x64.size a := fun v939 k0_hw361 => k0_hw361

def k0_off881 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_556 : BitVec 32 := 16#32
  let v936 : BitVec 32 := Scalar.muli arg13 c16_i32_556
  let c12_i32 : BitVec 32 := 12#32
  let v937 : BitVec 32 := Scalar.addi v936 c12_i32
  let c0_i32_559 : BitVec 32 := 0#32
  ![v937.toNat, 0]
def k0_off882 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_556 : BitVec 32 := 16#32
  let v936 : BitVec 32 := Scalar.muli arg13 c16_i32_556
  let c12_i32 : BitVec 32 := 12#32
  let v937 : BitVec 32 := Scalar.addi v936 c12_i32
  let c5_i32_561 : BitVec 32 := 5#32
  let v950 : BitVec 32 := Scalar.muli v937 c5_i32_561
  let c0_i32_562 : BitVec 32 := 0#32
  let v951 : BitVec 32 := Scalar.addi v950 c0_i32_562
  let c0_i32_563 : BitVec 32 := 0#32
  ![v951.toNat, 0]
def k0_off883 (v949 : BitVec 32) : Fin 2 → Nat :=
  let c0_i32_564 : BitVec 32 := 0#32
  ![v949.toNat, 0]

def k0_chk362 (v949 : BitVec 32) : Prop :=
  (∀ a, (k0_off883 v949) a + S1x64.size a ≤ S1000000x64.size a)
instance k0_chk362.dec : ∀ (v949 : BitVec 32), Decidable (k0_chk362 v949) := fun v949 => decidable_of_iff' _ (Iff.of_eq (k0_chk362.eq_1 v949))
theorem k0_off883_inb : ∀ (v949 : BitVec 32) (k0_hw362 : k0_chk362 v949), ∀ a, (k0_off883 v949) a + S1x64.size a ≤ S1000000x64.size a := fun v949 k0_hw362 => k0_hw362

def k0_off884 (k0_t10 : Fin k0_t10_loop.trips) (c0_i32_562 : BitVec 32) : Fin 2 → Nat :=
  let c0_i32_44 : BitVec 32 := 0#32
  let c1_i32_46 : BitVec 32 := 1#32
  let arg13 : BitVec 32 := Scf.iv c0_i32_44 c1_i32_46 k0_t10
  let c16_i32_556 : BitVec 32 := 16#32
  let v936 : BitVec 32 := Scalar.muli arg13 c16_i32_556
  let c12_i32 : BitVec 32 := 12#32
  let v937 : BitVec 32 := Scalar.addi v936 c12_i32
  let c5_i32_561 : BitVec 32 := 5#32
  let v950 : BitVec 32 := Scalar.muli v937 c5_i32_561
  let v951 : BitVec 32 := Scalar.addi v950 c0_i32_562
  let c0_i32_565 : BitVec 32 := 0#32
  ![v951.toNat, 0]
def k0_off885 (v961 : BitVec 32) : Fin 2 → Nat :=
  let c0_i32_570 : BitVec 32 := 0#32
  ![v961.toNat, 0]

def k0_chk363 (v961 : BitVec 32) : Prop :=
  (∀ a, (k0_off885 v961) a + S1x64.size a ≤ S1000000x64.size a)
instance k0_chk363.dec : ∀ (v961 : BitVec 32), Decidable (k0_chk363 v961) := fun v961 => decidable_of_iff' _ (Iff.of_eq (k0_chk363.eq_1 v961))
theorem k0_off885_inb : ∀ (v961 : BitVec 32) (k0_hw363 : k0_chk363 v961), ∀ a, (k0_off885 v961) a + S1x64.size a ≤ S1000000x64.size a := fun v961 k0_hw363 => k0_hw363

def k0_off886 (k0_t10 : Fin k0_t10_loop.trips) (c1_i32_568 : BitVec 32) : Fin 2 → Nat :=
  let c0_i32_44 : BitVec 32 := 0#32
  let c1_i32_46 : BitVec 32 := 1#32
  let arg13 : BitVec 32 := Scf.iv c0_i32_44 c1_i32_46 k0_t10
  let c16_i32_556 : BitVec 32 := 16#32
  let v936 : BitVec 32 := Scalar.muli arg13 c16_i32_556
  let c12_i32 : BitVec 32 := 12#32
  let v937 : BitVec 32 := Scalar.addi v936 c12_i32
  let c5_i32_567 : BitVec 32 := 5#32
  let v962 : BitVec 32 := Scalar.muli v937 c5_i32_567
  let v963 : BitVec 32 := Scalar.addi v962 c1_i32_568
  let c0_i32_571 : BitVec 32 := 0#32
  ![v963.toNat, 0]
def k0_off887 (v973 : BitVec 32) : Fin 2 → Nat :=
  let c0_i32_576 : BitVec 32 := 0#32
  ![v973.toNat, 0]

def k0_chk364 (v973 : BitVec 32) : Prop :=
  (∀ a, (k0_off887 v973) a + S1x64.size a ≤ S1000000x64.size a)
instance k0_chk364.dec : ∀ (v973 : BitVec 32), Decidable (k0_chk364 v973) := fun v973 => decidable_of_iff' _ (Iff.of_eq (k0_chk364.eq_1 v973))
theorem k0_off887_inb : ∀ (v973 : BitVec 32) (k0_hw364 : k0_chk364 v973), ∀ a, (k0_off887 v973) a + S1x64.size a ≤ S1000000x64.size a := fun v973 k0_hw364 => k0_hw364

def k0_off888 (k0_t10 : Fin k0_t10_loop.trips) (c2_i32_574 : BitVec 32) : Fin 2 → Nat :=
  let c0_i32_44 : BitVec 32 := 0#32
  let c1_i32_46 : BitVec 32 := 1#32
  let arg13 : BitVec 32 := Scf.iv c0_i32_44 c1_i32_46 k0_t10
  let c16_i32_556 : BitVec 32 := 16#32
  let v936 : BitVec 32 := Scalar.muli arg13 c16_i32_556
  let c12_i32 : BitVec 32 := 12#32
  let v937 : BitVec 32 := Scalar.addi v936 c12_i32
  let c5_i32_573 : BitVec 32 := 5#32
  let v974 : BitVec 32 := Scalar.muli v937 c5_i32_573
  let v975 : BitVec 32 := Scalar.addi v974 c2_i32_574
  let c0_i32_577 : BitVec 32 := 0#32
  ![v975.toNat, 0]
def k0_off889 (v985 : BitVec 32) : Fin 2 → Nat :=
  let c0_i32_582 : BitVec 32 := 0#32
  ![v985.toNat, 0]

def k0_chk365 (v985 : BitVec 32) : Prop :=
  (∀ a, (k0_off889 v985) a + S1x64.size a ≤ S1000000x64.size a)
instance k0_chk365.dec : ∀ (v985 : BitVec 32), Decidable (k0_chk365 v985) := fun v985 => decidable_of_iff' _ (Iff.of_eq (k0_chk365.eq_1 v985))
theorem k0_off889_inb : ∀ (v985 : BitVec 32) (k0_hw365 : k0_chk365 v985), ∀ a, (k0_off889 v985) a + S1x64.size a ≤ S1000000x64.size a := fun v985 k0_hw365 => k0_hw365

def k0_off890 (k0_t10 : Fin k0_t10_loop.trips) (c3_i32_580 : BitVec 32) : Fin 2 → Nat :=
  let c0_i32_44 : BitVec 32 := 0#32
  let c1_i32_46 : BitVec 32 := 1#32
  let arg13 : BitVec 32 := Scf.iv c0_i32_44 c1_i32_46 k0_t10
  let c16_i32_556 : BitVec 32 := 16#32
  let v936 : BitVec 32 := Scalar.muli arg13 c16_i32_556
  let c12_i32 : BitVec 32 := 12#32
  let v937 : BitVec 32 := Scalar.addi v936 c12_i32
  let c5_i32_579 : BitVec 32 := 5#32
  let v986 : BitVec 32 := Scalar.muli v937 c5_i32_579
  let v987 : BitVec 32 := Scalar.addi v986 c3_i32_580
  let c0_i32_583 : BitVec 32 := 0#32
  ![v987.toNat, 0]
def k0_off891 (v997 : BitVec 32) : Fin 2 → Nat :=
  let c0_i32_588 : BitVec 32 := 0#32
  ![v997.toNat, 0]

def k0_chk366 (v997 : BitVec 32) : Prop :=
  (∀ a, (k0_off891 v997) a + S1x64.size a ≤ S1000000x64.size a)
instance k0_chk366.dec : ∀ (v997 : BitVec 32), Decidable (k0_chk366 v997) := fun v997 => decidable_of_iff' _ (Iff.of_eq (k0_chk366.eq_1 v997))
theorem k0_off891_inb : ∀ (v997 : BitVec 32) (k0_hw366 : k0_chk366 v997), ∀ a, (k0_off891 v997) a + S1x64.size a ≤ S1000000x64.size a := fun v997 k0_hw366 => k0_hw366

def k0_off892 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_556 : BitVec 32 := 16#32
  let v936 : BitVec 32 := Scalar.muli arg13 c16_i32_556
  let c12_i32 : BitVec 32 := 12#32
  let v937 : BitVec 32 := Scalar.addi v936 c12_i32
  let c5_i32_585 : BitVec 32 := 5#32
  let v998 : BitVec 32 := Scalar.muli v937 c5_i32_585
  let c4_i32_586 : BitVec 32 := 4#32
  let v999 : BitVec 32 := Scalar.addi v998 c4_i32_586
  let c0_i32_589 : BitVec 32 := 0#32
  ![v999.toNat, 0]
def k0_off893 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_591 : BitVec 32 := 16#32
  let v1008 : BitVec 32 := Scalar.muli arg13 c16_i32_591
  let c13_i32 : BitVec 32 := 13#32
  let v1009 : BitVec 32 := Scalar.addi v1008 c13_i32
  let c0_i32_592 : BitVec 32 := 0#32
  ![v1009.toNat, 0]
def k0_off894 (v1011 : BitVec 32) : Fin 2 → Nat :=
  let c0_i32_593 : BitVec 32 := 0#32
  ![v1011.toNat, 0]

def k0_chk367 (v1011 : BitVec 32) : Prop :=
  (∀ a, (k0_off894 v1011) a + S1x64.size a ≤ S1000000x64.size a)
instance k0_chk367.dec : ∀ (v1011 : BitVec 32), Decidable (k0_chk367 v1011) := fun v1011 => decidable_of_iff' _ (Iff.of_eq (k0_chk367.eq_1 v1011))
theorem k0_off894_inb : ∀ (v1011 : BitVec 32) (k0_hw367 : k0_chk367 v1011), ∀ a, (k0_off894 v1011) a + S1x64.size a ≤ S1000000x64.size a := fun v1011 k0_hw367 => k0_hw367

def k0_off895 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_591 : BitVec 32 := 16#32
  let v1008 : BitVec 32 := Scalar.muli arg13 c16_i32_591
  let c13_i32 : BitVec 32 := 13#32
  let v1009 : BitVec 32 := Scalar.addi v1008 c13_i32
  let c0_i32_594 : BitVec 32 := 0#32
  ![v1009.toNat, 0]
def k0_off896 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_591 : BitVec 32 := 16#32
  let v1008 : BitVec 32 := Scalar.muli arg13 c16_i32_591
  let c13_i32 : BitVec 32 := 13#32
  let v1009 : BitVec 32 := Scalar.addi v1008 c13_i32
  let c5_i32_596 : BitVec 32 := 5#32
  let v1022 : BitVec 32 := Scalar.muli v1009 c5_i32_596
  let c0_i32_597 : BitVec 32 := 0#32
  let v1023 : BitVec 32 := Scalar.addi v1022 c0_i32_597
  let c0_i32_598 : BitVec 32 := 0#32
  ![v1023.toNat, 0]
def k0_off897 (v1021 : BitVec 32) : Fin 2 → Nat :=
  let c0_i32_599 : BitVec 32 := 0#32
  ![v1021.toNat, 0]

def k0_chk368 (v1021 : BitVec 32) : Prop :=
  (∀ a, (k0_off897 v1021) a + S1x64.size a ≤ S1000000x64.size a)
instance k0_chk368.dec : ∀ (v1021 : BitVec 32), Decidable (k0_chk368 v1021) := fun v1021 => decidable_of_iff' _ (Iff.of_eq (k0_chk368.eq_1 v1021))
theorem k0_off897_inb : ∀ (v1021 : BitVec 32) (k0_hw368 : k0_chk368 v1021), ∀ a, (k0_off897 v1021) a + S1x64.size a ≤ S1000000x64.size a := fun v1021 k0_hw368 => k0_hw368

def k0_off898 (k0_t10 : Fin k0_t10_loop.trips) (c0_i32_597 : BitVec 32) : Fin 2 → Nat :=
  let c0_i32_44 : BitVec 32 := 0#32
  let c1_i32_46 : BitVec 32 := 1#32
  let arg13 : BitVec 32 := Scf.iv c0_i32_44 c1_i32_46 k0_t10
  let c16_i32_591 : BitVec 32 := 16#32
  let v1008 : BitVec 32 := Scalar.muli arg13 c16_i32_591
  let c13_i32 : BitVec 32 := 13#32
  let v1009 : BitVec 32 := Scalar.addi v1008 c13_i32
  let c5_i32_596 : BitVec 32 := 5#32
  let v1022 : BitVec 32 := Scalar.muli v1009 c5_i32_596
  let v1023 : BitVec 32 := Scalar.addi v1022 c0_i32_597
  let c0_i32_600 : BitVec 32 := 0#32
  ![v1023.toNat, 0]
def k0_off899 (v1033 : BitVec 32) : Fin 2 → Nat :=
  let c0_i32_605 : BitVec 32 := 0#32
  ![v1033.toNat, 0]

def k0_chk369 (v1033 : BitVec 32) : Prop :=
  (∀ a, (k0_off899 v1033) a + S1x64.size a ≤ S1000000x64.size a)
instance k0_chk369.dec : ∀ (v1033 : BitVec 32), Decidable (k0_chk369 v1033) := fun v1033 => decidable_of_iff' _ (Iff.of_eq (k0_chk369.eq_1 v1033))
theorem k0_off899_inb : ∀ (v1033 : BitVec 32) (k0_hw369 : k0_chk369 v1033), ∀ a, (k0_off899 v1033) a + S1x64.size a ≤ S1000000x64.size a := fun v1033 k0_hw369 => k0_hw369

def k0_off900 (k0_t10 : Fin k0_t10_loop.trips) (c1_i32_603 : BitVec 32) : Fin 2 → Nat :=
  let c0_i32_44 : BitVec 32 := 0#32
  let c1_i32_46 : BitVec 32 := 1#32
  let arg13 : BitVec 32 := Scf.iv c0_i32_44 c1_i32_46 k0_t10
  let c16_i32_591 : BitVec 32 := 16#32
  let v1008 : BitVec 32 := Scalar.muli arg13 c16_i32_591
  let c13_i32 : BitVec 32 := 13#32
  let v1009 : BitVec 32 := Scalar.addi v1008 c13_i32
  let c5_i32_602 : BitVec 32 := 5#32
  let v1034 : BitVec 32 := Scalar.muli v1009 c5_i32_602
  let v1035 : BitVec 32 := Scalar.addi v1034 c1_i32_603
  let c0_i32_606 : BitVec 32 := 0#32
  ![v1035.toNat, 0]
def k0_off901 (v1045 : BitVec 32) : Fin 2 → Nat :=
  let c0_i32_611 : BitVec 32 := 0#32
  ![v1045.toNat, 0]

def k0_chk370 (v1045 : BitVec 32) : Prop :=
  (∀ a, (k0_off901 v1045) a + S1x64.size a ≤ S1000000x64.size a)
instance k0_chk370.dec : ∀ (v1045 : BitVec 32), Decidable (k0_chk370 v1045) := fun v1045 => decidable_of_iff' _ (Iff.of_eq (k0_chk370.eq_1 v1045))
theorem k0_off901_inb : ∀ (v1045 : BitVec 32) (k0_hw370 : k0_chk370 v1045), ∀ a, (k0_off901 v1045) a + S1x64.size a ≤ S1000000x64.size a := fun v1045 k0_hw370 => k0_hw370

def k0_off902 (k0_t10 : Fin k0_t10_loop.trips) (c2_i32_609 : BitVec 32) : Fin 2 → Nat :=
  let c0_i32_44 : BitVec 32 := 0#32
  let c1_i32_46 : BitVec 32 := 1#32
  let arg13 : BitVec 32 := Scf.iv c0_i32_44 c1_i32_46 k0_t10
  let c16_i32_591 : BitVec 32 := 16#32
  let v1008 : BitVec 32 := Scalar.muli arg13 c16_i32_591
  let c13_i32 : BitVec 32 := 13#32
  let v1009 : BitVec 32 := Scalar.addi v1008 c13_i32
  let c5_i32_608 : BitVec 32 := 5#32
  let v1046 : BitVec 32 := Scalar.muli v1009 c5_i32_608
  let v1047 : BitVec 32 := Scalar.addi v1046 c2_i32_609
  let c0_i32_612 : BitVec 32 := 0#32
  ![v1047.toNat, 0]
def k0_off903 (v1057 : BitVec 32) : Fin 2 → Nat :=
  let c0_i32_617 : BitVec 32 := 0#32
  ![v1057.toNat, 0]

def k0_chk371 (v1057 : BitVec 32) : Prop :=
  (∀ a, (k0_off903 v1057) a + S1x64.size a ≤ S1000000x64.size a)
instance k0_chk371.dec : ∀ (v1057 : BitVec 32), Decidable (k0_chk371 v1057) := fun v1057 => decidable_of_iff' _ (Iff.of_eq (k0_chk371.eq_1 v1057))
theorem k0_off903_inb : ∀ (v1057 : BitVec 32) (k0_hw371 : k0_chk371 v1057), ∀ a, (k0_off903 v1057) a + S1x64.size a ≤ S1000000x64.size a := fun v1057 k0_hw371 => k0_hw371

def k0_off904 (k0_t10 : Fin k0_t10_loop.trips) (c3_i32_615 : BitVec 32) : Fin 2 → Nat :=
  let c0_i32_44 : BitVec 32 := 0#32
  let c1_i32_46 : BitVec 32 := 1#32
  let arg13 : BitVec 32 := Scf.iv c0_i32_44 c1_i32_46 k0_t10
  let c16_i32_591 : BitVec 32 := 16#32
  let v1008 : BitVec 32 := Scalar.muli arg13 c16_i32_591
  let c13_i32 : BitVec 32 := 13#32
  let v1009 : BitVec 32 := Scalar.addi v1008 c13_i32
  let c5_i32_614 : BitVec 32 := 5#32
  let v1058 : BitVec 32 := Scalar.muli v1009 c5_i32_614
  let v1059 : BitVec 32 := Scalar.addi v1058 c3_i32_615
  let c0_i32_618 : BitVec 32 := 0#32
  ![v1059.toNat, 0]
def k0_off905 (v1069 : BitVec 32) : Fin 2 → Nat :=
  let c0_i32_623 : BitVec 32 := 0#32
  ![v1069.toNat, 0]

def k0_chk372 (v1069 : BitVec 32) : Prop :=
  (∀ a, (k0_off905 v1069) a + S1x64.size a ≤ S1000000x64.size a)
instance k0_chk372.dec : ∀ (v1069 : BitVec 32), Decidable (k0_chk372 v1069) := fun v1069 => decidable_of_iff' _ (Iff.of_eq (k0_chk372.eq_1 v1069))
theorem k0_off905_inb : ∀ (v1069 : BitVec 32) (k0_hw372 : k0_chk372 v1069), ∀ a, (k0_off905 v1069) a + S1x64.size a ≤ S1000000x64.size a := fun v1069 k0_hw372 => k0_hw372

def k0_off906 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_591 : BitVec 32 := 16#32
  let v1008 : BitVec 32 := Scalar.muli arg13 c16_i32_591
  let c13_i32 : BitVec 32 := 13#32
  let v1009 : BitVec 32 := Scalar.addi v1008 c13_i32
  let c5_i32_620 : BitVec 32 := 5#32
  let v1070 : BitVec 32 := Scalar.muli v1009 c5_i32_620
  let c4_i32_621 : BitVec 32 := 4#32
  let v1071 : BitVec 32 := Scalar.addi v1070 c4_i32_621
  let c0_i32_624 : BitVec 32 := 0#32
  ![v1071.toNat, 0]
def k0_off907 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_626 : BitVec 32 := 16#32
  let v1080 : BitVec 32 := Scalar.muli arg13 c16_i32_626
  let c14_i32 : BitVec 32 := 14#32
  let v1081 : BitVec 32 := Scalar.addi v1080 c14_i32
  let c0_i32_627 : BitVec 32 := 0#32
  ![v1081.toNat, 0]
def k0_off908 (v1083 : BitVec 32) : Fin 2 → Nat :=
  let c0_i32_628 : BitVec 32 := 0#32
  ![v1083.toNat, 0]

def k0_chk373 (v1083 : BitVec 32) : Prop :=
  (∀ a, (k0_off908 v1083) a + S1x64.size a ≤ S1000000x64.size a)
instance k0_chk373.dec : ∀ (v1083 : BitVec 32), Decidable (k0_chk373 v1083) := fun v1083 => decidable_of_iff' _ (Iff.of_eq (k0_chk373.eq_1 v1083))
theorem k0_off908_inb : ∀ (v1083 : BitVec 32) (k0_hw373 : k0_chk373 v1083), ∀ a, (k0_off908 v1083) a + S1x64.size a ≤ S1000000x64.size a := fun v1083 k0_hw373 => k0_hw373

def k0_off909 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_626 : BitVec 32 := 16#32
  let v1080 : BitVec 32 := Scalar.muli arg13 c16_i32_626
  let c14_i32 : BitVec 32 := 14#32
  let v1081 : BitVec 32 := Scalar.addi v1080 c14_i32
  let c0_i32_629 : BitVec 32 := 0#32
  ![v1081.toNat, 0]
def k0_off910 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_626 : BitVec 32 := 16#32
  let v1080 : BitVec 32 := Scalar.muli arg13 c16_i32_626
  let c14_i32 : BitVec 32 := 14#32
  let v1081 : BitVec 32 := Scalar.addi v1080 c14_i32
  let c5_i32_631 : BitVec 32 := 5#32
  let v1094 : BitVec 32 := Scalar.muli v1081 c5_i32_631
  let c0_i32_632 : BitVec 32 := 0#32
  let v1095 : BitVec 32 := Scalar.addi v1094 c0_i32_632
  let c0_i32_633 : BitVec 32 := 0#32
  ![v1095.toNat, 0]
def k0_off911 (v1093 : BitVec 32) : Fin 2 → Nat :=
  let c0_i32_634 : BitVec 32 := 0#32
  ![v1093.toNat, 0]

def k0_chk374 (v1093 : BitVec 32) : Prop :=
  (∀ a, (k0_off911 v1093) a + S1x64.size a ≤ S1000000x64.size a)
instance k0_chk374.dec : ∀ (v1093 : BitVec 32), Decidable (k0_chk374 v1093) := fun v1093 => decidable_of_iff' _ (Iff.of_eq (k0_chk374.eq_1 v1093))
theorem k0_off911_inb : ∀ (v1093 : BitVec 32) (k0_hw374 : k0_chk374 v1093), ∀ a, (k0_off911 v1093) a + S1x64.size a ≤ S1000000x64.size a := fun v1093 k0_hw374 => k0_hw374

def k0_off912 (k0_t10 : Fin k0_t10_loop.trips) (c0_i32_632 : BitVec 32) : Fin 2 → Nat :=
  let c0_i32_44 : BitVec 32 := 0#32
  let c1_i32_46 : BitVec 32 := 1#32
  let arg13 : BitVec 32 := Scf.iv c0_i32_44 c1_i32_46 k0_t10
  let c16_i32_626 : BitVec 32 := 16#32
  let v1080 : BitVec 32 := Scalar.muli arg13 c16_i32_626
  let c14_i32 : BitVec 32 := 14#32
  let v1081 : BitVec 32 := Scalar.addi v1080 c14_i32
  let c5_i32_631 : BitVec 32 := 5#32
  let v1094 : BitVec 32 := Scalar.muli v1081 c5_i32_631
  let v1095 : BitVec 32 := Scalar.addi v1094 c0_i32_632
  let c0_i32_635 : BitVec 32 := 0#32
  ![v1095.toNat, 0]
def k0_off913 (v1105 : BitVec 32) : Fin 2 → Nat :=
  let c0_i32_640 : BitVec 32 := 0#32
  ![v1105.toNat, 0]

def k0_chk375 (v1105 : BitVec 32) : Prop :=
  (∀ a, (k0_off913 v1105) a + S1x64.size a ≤ S1000000x64.size a)
instance k0_chk375.dec : ∀ (v1105 : BitVec 32), Decidable (k0_chk375 v1105) := fun v1105 => decidable_of_iff' _ (Iff.of_eq (k0_chk375.eq_1 v1105))
theorem k0_off913_inb : ∀ (v1105 : BitVec 32) (k0_hw375 : k0_chk375 v1105), ∀ a, (k0_off913 v1105) a + S1x64.size a ≤ S1000000x64.size a := fun v1105 k0_hw375 => k0_hw375

def k0_off914 (k0_t10 : Fin k0_t10_loop.trips) (c1_i32_638 : BitVec 32) : Fin 2 → Nat :=
  let c0_i32_44 : BitVec 32 := 0#32
  let c1_i32_46 : BitVec 32 := 1#32
  let arg13 : BitVec 32 := Scf.iv c0_i32_44 c1_i32_46 k0_t10
  let c16_i32_626 : BitVec 32 := 16#32
  let v1080 : BitVec 32 := Scalar.muli arg13 c16_i32_626
  let c14_i32 : BitVec 32 := 14#32
  let v1081 : BitVec 32 := Scalar.addi v1080 c14_i32
  let c5_i32_637 : BitVec 32 := 5#32
  let v1106 : BitVec 32 := Scalar.muli v1081 c5_i32_637
  let v1107 : BitVec 32 := Scalar.addi v1106 c1_i32_638
  let c0_i32_641 : BitVec 32 := 0#32
  ![v1107.toNat, 0]
def k0_off915 (v1117 : BitVec 32) : Fin 2 → Nat :=
  let c0_i32_646 : BitVec 32 := 0#32
  ![v1117.toNat, 0]

def k0_chk376 (v1117 : BitVec 32) : Prop :=
  (∀ a, (k0_off915 v1117) a + S1x64.size a ≤ S1000000x64.size a)
instance k0_chk376.dec : ∀ (v1117 : BitVec 32), Decidable (k0_chk376 v1117) := fun v1117 => decidable_of_iff' _ (Iff.of_eq (k0_chk376.eq_1 v1117))
theorem k0_off915_inb : ∀ (v1117 : BitVec 32) (k0_hw376 : k0_chk376 v1117), ∀ a, (k0_off915 v1117) a + S1x64.size a ≤ S1000000x64.size a := fun v1117 k0_hw376 => k0_hw376

def k0_off916 (k0_t10 : Fin k0_t10_loop.trips) (c2_i32_644 : BitVec 32) : Fin 2 → Nat :=
  let c0_i32_44 : BitVec 32 := 0#32
  let c1_i32_46 : BitVec 32 := 1#32
  let arg13 : BitVec 32 := Scf.iv c0_i32_44 c1_i32_46 k0_t10
  let c16_i32_626 : BitVec 32 := 16#32
  let v1080 : BitVec 32 := Scalar.muli arg13 c16_i32_626
  let c14_i32 : BitVec 32 := 14#32
  let v1081 : BitVec 32 := Scalar.addi v1080 c14_i32
  let c5_i32_643 : BitVec 32 := 5#32
  let v1118 : BitVec 32 := Scalar.muli v1081 c5_i32_643
  let v1119 : BitVec 32 := Scalar.addi v1118 c2_i32_644
  let c0_i32_647 : BitVec 32 := 0#32
  ![v1119.toNat, 0]
def k0_off917 (v1129 : BitVec 32) : Fin 2 → Nat :=
  let c0_i32_652 : BitVec 32 := 0#32
  ![v1129.toNat, 0]

def k0_chk377 (v1129 : BitVec 32) : Prop :=
  (∀ a, (k0_off917 v1129) a + S1x64.size a ≤ S1000000x64.size a)
instance k0_chk377.dec : ∀ (v1129 : BitVec 32), Decidable (k0_chk377 v1129) := fun v1129 => decidable_of_iff' _ (Iff.of_eq (k0_chk377.eq_1 v1129))
theorem k0_off917_inb : ∀ (v1129 : BitVec 32) (k0_hw377 : k0_chk377 v1129), ∀ a, (k0_off917 v1129) a + S1x64.size a ≤ S1000000x64.size a := fun v1129 k0_hw377 => k0_hw377

def k0_off918 (k0_t10 : Fin k0_t10_loop.trips) (c3_i32_650 : BitVec 32) : Fin 2 → Nat :=
  let c0_i32_44 : BitVec 32 := 0#32
  let c1_i32_46 : BitVec 32 := 1#32
  let arg13 : BitVec 32 := Scf.iv c0_i32_44 c1_i32_46 k0_t10
  let c16_i32_626 : BitVec 32 := 16#32
  let v1080 : BitVec 32 := Scalar.muli arg13 c16_i32_626
  let c14_i32 : BitVec 32 := 14#32
  let v1081 : BitVec 32 := Scalar.addi v1080 c14_i32
  let c5_i32_649 : BitVec 32 := 5#32
  let v1130 : BitVec 32 := Scalar.muli v1081 c5_i32_649
  let v1131 : BitVec 32 := Scalar.addi v1130 c3_i32_650
  let c0_i32_653 : BitVec 32 := 0#32
  ![v1131.toNat, 0]
def k0_off919 (v1141 : BitVec 32) : Fin 2 → Nat :=
  let c0_i32_658 : BitVec 32 := 0#32
  ![v1141.toNat, 0]

def k0_chk378 (v1141 : BitVec 32) : Prop :=
  (∀ a, (k0_off919 v1141) a + S1x64.size a ≤ S1000000x64.size a)
instance k0_chk378.dec : ∀ (v1141 : BitVec 32), Decidable (k0_chk378 v1141) := fun v1141 => decidable_of_iff' _ (Iff.of_eq (k0_chk378.eq_1 v1141))
theorem k0_off919_inb : ∀ (v1141 : BitVec 32) (k0_hw378 : k0_chk378 v1141), ∀ a, (k0_off919 v1141) a + S1x64.size a ≤ S1000000x64.size a := fun v1141 k0_hw378 => k0_hw378

def k0_off920 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_626 : BitVec 32 := 16#32
  let v1080 : BitVec 32 := Scalar.muli arg13 c16_i32_626
  let c14_i32 : BitVec 32 := 14#32
  let v1081 : BitVec 32 := Scalar.addi v1080 c14_i32
  let c5_i32_655 : BitVec 32 := 5#32
  let v1142 : BitVec 32 := Scalar.muli v1081 c5_i32_655
  let c4_i32_656 : BitVec 32 := 4#32
  let v1143 : BitVec 32 := Scalar.addi v1142 c4_i32_656
  let c0_i32_659 : BitVec 32 := 0#32
  ![v1143.toNat, 0]
def k0_off921 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_661 : BitVec 32 := 16#32
  let v1152 : BitVec 32 := Scalar.muli arg13 c16_i32_661
  let c15_i32 : BitVec 32 := 15#32
  let v1153 : BitVec 32 := Scalar.addi v1152 c15_i32
  let c0_i32_662 : BitVec 32 := 0#32
  ![v1153.toNat, 0]
def k0_off922 (v1155 : BitVec 32) : Fin 2 → Nat :=
  let c0_i32_663 : BitVec 32 := 0#32
  ![v1155.toNat, 0]

def k0_chk379 (v1155 : BitVec 32) : Prop :=
  (∀ a, (k0_off922 v1155) a + S1x64.size a ≤ S1000000x64.size a)
instance k0_chk379.dec : ∀ (v1155 : BitVec 32), Decidable (k0_chk379 v1155) := fun v1155 => decidable_of_iff' _ (Iff.of_eq (k0_chk379.eq_1 v1155))
theorem k0_off922_inb : ∀ (v1155 : BitVec 32) (k0_hw379 : k0_chk379 v1155), ∀ a, (k0_off922 v1155) a + S1x64.size a ≤ S1000000x64.size a := fun v1155 k0_hw379 => k0_hw379

def k0_off923 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_661 : BitVec 32 := 16#32
  let v1152 : BitVec 32 := Scalar.muli arg13 c16_i32_661
  let c15_i32 : BitVec 32 := 15#32
  let v1153 : BitVec 32 := Scalar.addi v1152 c15_i32
  let c0_i32_664 : BitVec 32 := 0#32
  ![v1153.toNat, 0]
def k0_off924 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_661 : BitVec 32 := 16#32
  let v1152 : BitVec 32 := Scalar.muli arg13 c16_i32_661
  let c15_i32 : BitVec 32 := 15#32
  let v1153 : BitVec 32 := Scalar.addi v1152 c15_i32
  let c5_i32_666 : BitVec 32 := 5#32
  let v1166 : BitVec 32 := Scalar.muli v1153 c5_i32_666
  let c0_i32_667 : BitVec 32 := 0#32
  let v1167 : BitVec 32 := Scalar.addi v1166 c0_i32_667
  let c0_i32_668 : BitVec 32 := 0#32
  ![v1167.toNat, 0]
def k0_off925 (v1165 : BitVec 32) : Fin 2 → Nat :=
  let c0_i32_669 : BitVec 32 := 0#32
  ![v1165.toNat, 0]

def k0_chk380 (v1165 : BitVec 32) : Prop :=
  (∀ a, (k0_off925 v1165) a + S1x64.size a ≤ S1000000x64.size a)
instance k0_chk380.dec : ∀ (v1165 : BitVec 32), Decidable (k0_chk380 v1165) := fun v1165 => decidable_of_iff' _ (Iff.of_eq (k0_chk380.eq_1 v1165))
theorem k0_off925_inb : ∀ (v1165 : BitVec 32) (k0_hw380 : k0_chk380 v1165), ∀ a, (k0_off925 v1165) a + S1x64.size a ≤ S1000000x64.size a := fun v1165 k0_hw380 => k0_hw380

def k0_off926 (k0_t10 : Fin k0_t10_loop.trips) (c0_i32_667 : BitVec 32) : Fin 2 → Nat :=
  let c0_i32_44 : BitVec 32 := 0#32
  let c1_i32_46 : BitVec 32 := 1#32
  let arg13 : BitVec 32 := Scf.iv c0_i32_44 c1_i32_46 k0_t10
  let c16_i32_661 : BitVec 32 := 16#32
  let v1152 : BitVec 32 := Scalar.muli arg13 c16_i32_661
  let c15_i32 : BitVec 32 := 15#32
  let v1153 : BitVec 32 := Scalar.addi v1152 c15_i32
  let c5_i32_666 : BitVec 32 := 5#32
  let v1166 : BitVec 32 := Scalar.muli v1153 c5_i32_666
  let v1167 : BitVec 32 := Scalar.addi v1166 c0_i32_667
  let c0_i32_670 : BitVec 32 := 0#32
  ![v1167.toNat, 0]
def k0_off927 (v1177 : BitVec 32) : Fin 2 → Nat :=
  let c0_i32_675 : BitVec 32 := 0#32
  ![v1177.toNat, 0]

def k0_chk381 (v1177 : BitVec 32) : Prop :=
  (∀ a, (k0_off927 v1177) a + S1x64.size a ≤ S1000000x64.size a)
instance k0_chk381.dec : ∀ (v1177 : BitVec 32), Decidable (k0_chk381 v1177) := fun v1177 => decidable_of_iff' _ (Iff.of_eq (k0_chk381.eq_1 v1177))
theorem k0_off927_inb : ∀ (v1177 : BitVec 32) (k0_hw381 : k0_chk381 v1177), ∀ a, (k0_off927 v1177) a + S1x64.size a ≤ S1000000x64.size a := fun v1177 k0_hw381 => k0_hw381

def k0_off928 (k0_t10 : Fin k0_t10_loop.trips) (c1_i32_673 : BitVec 32) : Fin 2 → Nat :=
  let c0_i32_44 : BitVec 32 := 0#32
  let c1_i32_46 : BitVec 32 := 1#32
  let arg13 : BitVec 32 := Scf.iv c0_i32_44 c1_i32_46 k0_t10
  let c16_i32_661 : BitVec 32 := 16#32
  let v1152 : BitVec 32 := Scalar.muli arg13 c16_i32_661
  let c15_i32 : BitVec 32 := 15#32
  let v1153 : BitVec 32 := Scalar.addi v1152 c15_i32
  let c5_i32_672 : BitVec 32 := 5#32
  let v1178 : BitVec 32 := Scalar.muli v1153 c5_i32_672
  let v1179 : BitVec 32 := Scalar.addi v1178 c1_i32_673
  let c0_i32_676 : BitVec 32 := 0#32
  ![v1179.toNat, 0]
def k0_off929 (v1189 : BitVec 32) : Fin 2 → Nat :=
  let c0_i32_681 : BitVec 32 := 0#32
  ![v1189.toNat, 0]

def k0_chk382 (v1189 : BitVec 32) : Prop :=
  (∀ a, (k0_off929 v1189) a + S1x64.size a ≤ S1000000x64.size a)
instance k0_chk382.dec : ∀ (v1189 : BitVec 32), Decidable (k0_chk382 v1189) := fun v1189 => decidable_of_iff' _ (Iff.of_eq (k0_chk382.eq_1 v1189))
theorem k0_off929_inb : ∀ (v1189 : BitVec 32) (k0_hw382 : k0_chk382 v1189), ∀ a, (k0_off929 v1189) a + S1x64.size a ≤ S1000000x64.size a := fun v1189 k0_hw382 => k0_hw382

def k0_off930 (k0_t10 : Fin k0_t10_loop.trips) (c2_i32_679 : BitVec 32) : Fin 2 → Nat :=
  let c0_i32_44 : BitVec 32 := 0#32
  let c1_i32_46 : BitVec 32 := 1#32
  let arg13 : BitVec 32 := Scf.iv c0_i32_44 c1_i32_46 k0_t10
  let c16_i32_661 : BitVec 32 := 16#32
  let v1152 : BitVec 32 := Scalar.muli arg13 c16_i32_661
  let c15_i32 : BitVec 32 := 15#32
  let v1153 : BitVec 32 := Scalar.addi v1152 c15_i32
  let c5_i32_678 : BitVec 32 := 5#32
  let v1190 : BitVec 32 := Scalar.muli v1153 c5_i32_678
  let v1191 : BitVec 32 := Scalar.addi v1190 c2_i32_679
  let c0_i32_682 : BitVec 32 := 0#32
  ![v1191.toNat, 0]
def k0_off931 (v1201 : BitVec 32) : Fin 2 → Nat :=
  let c0_i32_687 : BitVec 32 := 0#32
  ![v1201.toNat, 0]

def k0_chk383 (v1201 : BitVec 32) : Prop :=
  (∀ a, (k0_off931 v1201) a + S1x64.size a ≤ S1000000x64.size a)
instance k0_chk383.dec : ∀ (v1201 : BitVec 32), Decidable (k0_chk383 v1201) := fun v1201 => decidable_of_iff' _ (Iff.of_eq (k0_chk383.eq_1 v1201))
theorem k0_off931_inb : ∀ (v1201 : BitVec 32) (k0_hw383 : k0_chk383 v1201), ∀ a, (k0_off931 v1201) a + S1x64.size a ≤ S1000000x64.size a := fun v1201 k0_hw383 => k0_hw383

def k0_off932 (k0_t10 : Fin k0_t10_loop.trips) (c3_i32_685 : BitVec 32) : Fin 2 → Nat :=
  let c0_i32_44 : BitVec 32 := 0#32
  let c1_i32_46 : BitVec 32 := 1#32
  let arg13 : BitVec 32 := Scf.iv c0_i32_44 c1_i32_46 k0_t10
  let c16_i32_661 : BitVec 32 := 16#32
  let v1152 : BitVec 32 := Scalar.muli arg13 c16_i32_661
  let c15_i32 : BitVec 32 := 15#32
  let v1153 : BitVec 32 := Scalar.addi v1152 c15_i32
  let c5_i32_684 : BitVec 32 := 5#32
  let v1202 : BitVec 32 := Scalar.muli v1153 c5_i32_684
  let v1203 : BitVec 32 := Scalar.addi v1202 c3_i32_685
  let c0_i32_688 : BitVec 32 := 0#32
  ![v1203.toNat, 0]
def k0_off933 (v1213 : BitVec 32) : Fin 2 → Nat :=
  let c0_i32_693 : BitVec 32 := 0#32
  ![v1213.toNat, 0]

def k0_chk384 (v1213 : BitVec 32) : Prop :=
  (∀ a, (k0_off933 v1213) a + S1x64.size a ≤ S1000000x64.size a)
instance k0_chk384.dec : ∀ (v1213 : BitVec 32), Decidable (k0_chk384 v1213) := fun v1213 => decidable_of_iff' _ (Iff.of_eq (k0_chk384.eq_1 v1213))
theorem k0_off933_inb : ∀ (v1213 : BitVec 32) (k0_hw384 : k0_chk384 v1213), ∀ a, (k0_off933 v1213) a + S1x64.size a ≤ S1000000x64.size a := fun v1213 k0_hw384 => k0_hw384

def k0_off934 (k0_t10 : Fin k0_t10_loop.trips) : Fin 2 → Nat :=
  let c0_i32_44 : BitVec 32 := 0#32
  let c1_i32_46 : BitVec 32 := 1#32
  let arg13 : BitVec 32 := Scf.iv c0_i32_44 c1_i32_46 k0_t10
  let c16_i32_661 : BitVec 32 := 16#32
  let v1152 : BitVec 32 := Scalar.muli arg13 c16_i32_661
  let c15_i32 : BitVec 32 := 15#32
  let v1153 : BitVec 32 := Scalar.addi v1152 c15_i32
  let c5_i32_690 : BitVec 32 := 5#32
  let v1214 : BitVec 32 := Scalar.muli v1153 c5_i32_690
  let c4_i32_691 : BitVec 32 := 4#32
  let v1215 : BitVec 32 := Scalar.addi v1214 c4_i32_691
  let c0_i32_694 : BitVec 32 := 0#32
  ![v1215.toNat, 0]
@[reducible] def k0_t11_loop : Scf.Loop 32 :=
  let c0_i32_49 : BitVec 32 := 0#32
  let c64_i32_50 : BitVec 32 := 64#32
  let v17 : BitVec 32 := Scalar.addi c0_i32_49 c64_i32_50
  let c1_i32_51 : BitVec 32 := 1#32
  ⟨c0_i32_49, v17, c1_i32_51⟩
@[reducible] def k0_t12_loop : Scf.Loop 32 :=
  let c0_i32_54 : BitVec 32 := 0#32
  let c64_i32_55 : BitVec 32 := 64#32
  let v18 : BitVec 32 := Scalar.addi c0_i32_54 c64_i32_55
  let c1_i32_56 : BitVec 32 := 1#32
  ⟨c0_i32_54, v18, c1_i32_56⟩
def k0_off935 (k0_t12 : Fin k0_t12_loop.trips) : Fin 2 → Nat :=
  let c0_i32_54 : BitVec 32 := 0#32
  let c1_i32_56 : BitVec 32 := 1#32
  let arg13 : BitVec 32 := Scf.iv c0_i32_54 c1_i32_56 k0_t12
  let v37 : Index := Scalar.indexCast arg13
  let c0 : Index := 0#32
  ![v37.toNat, 0]
def k0_off936 (k0_t12 : Fin k0_t12_loop.trips) : Fin 2 → Nat :=
  let c0_i32_54 : BitVec 32 := 0#32
  let c1_i32_56 : BitVec 32 := 1#32
  let arg13 : BitVec 32 := Scf.iv c0_i32_54 c1_i32_56 k0_t12
  let v40 : Index := Scalar.indexCast arg13
  let c16 : Index := 16#32
  ![v40.toNat, 16]
def k0_off937 (k0_t12 : Fin k0_t12_loop.trips) : Fin 2 → Nat :=
  let c0_i32_54 : BitVec 32 := 0#32
  let c1_i32_56 : BitVec 32 := 1#32
  let arg13 : BitVec 32 := Scf.iv c0_i32_54 c1_i32_56 k0_t12
  let v43 : Index := Scalar.indexCast arg13
  let c32 : Index := 32#32
  ![v43.toNat, 32]
def k0_off938 (k0_t12 : Fin k0_t12_loop.trips) : Fin 2 → Nat :=
  let c0_i32_54 : BitVec 32 := 0#32
  let c1_i32_56 : BitVec 32 := 1#32
  let arg13 : BitVec 32 := Scf.iv c0_i32_54 c1_i32_56 k0_t12
  let v46 : Index := Scalar.indexCast arg13
  let c48 : Index := 48#32
  ![v46.toNat, 48]
def k0_off939 (k0_t12 : Fin k0_t12_loop.trips) (c0_i32_121 : BitVec 32) : Fin 2 → Nat :=
  let c0_i32_54 : BitVec 32 := 0#32
  let c1_i32_56 : BitVec 32 := 1#32
  let arg13 : BitVec 32 := Scf.iv c0_i32_54 c1_i32_56 k0_t12
  let c5_i32_120 : BitVec 32 := 5#32
  let v51 : BitVec 32 := Scalar.muli arg13 c5_i32_120
  let v52 : BitVec 32 := Scalar.addi v51 c0_i32_121
  let v53 : Index := Scalar.indexCast v52
  let c0_122 : Index := 0#32
  ![v53.toNat, 0]
def k0_off940 (k0_t12 : Fin k0_t12_loop.trips) (c0_i32_121 : BitVec 32) : Fin 2 → Nat :=
  let c0_i32_54 : BitVec 32 := 0#32
  let c1_i32_56 : BitVec 32 := 1#32
  let arg13 : BitVec 32 := Scf.iv c0_i32_54 c1_i32_56 k0_t12
  let c5_i32_120 : BitVec 32 := 5#32
  let v51 : BitVec 32 := Scalar.muli arg13 c5_i32_120
  let v52 : BitVec 32 := Scalar.addi v51 c0_i32_121
  let v57 : Index := Scalar.indexCast v52
  let c16_123 : Index := 16#32
  ![v57.toNat, 16]
def k0_off941 (k0_t12 : Fin k0_t12_loop.trips) (c0_i32_121 : BitVec 32) : Fin 2 → Nat :=
  let c0_i32_54 : BitVec 32 := 0#32
  let c1_i32_56 : BitVec 32 := 1#32
  let arg13 : BitVec 32 := Scf.iv c0_i32_54 c1_i32_56 k0_t12
  let c5_i32_120 : BitVec 32 := 5#32
  let v51 : BitVec 32 := Scalar.muli arg13 c5_i32_120
  let v52 : BitVec 32 := Scalar.addi v51 c0_i32_121
  let v62 : Index := Scalar.indexCast v52
  let c32_124 : Index := 32#32
  ![v62.toNat, 32]
def k0_off942 (k0_t12 : Fin k0_t12_loop.trips) (c0_i32_121 : BitVec 32) : Fin 2 → Nat :=
  let c0_i32_54 : BitVec 32 := 0#32
  let c1_i32_56 : BitVec 32 := 1#32
  let arg13 : BitVec 32 := Scf.iv c0_i32_54 c1_i32_56 k0_t12
  let c5_i32_120 : BitVec 32 := 5#32
  let v51 : BitVec 32 := Scalar.muli arg13 c5_i32_120
  let v52 : BitVec 32 := Scalar.addi v51 c0_i32_121
  let v67 : Index := Scalar.indexCast v52
  let c48_125 : Index := 48#32
  ![v67.toNat, 48]
def k0_off943 (k0_t12 : Fin k0_t12_loop.trips) (c0_i32_126 : BitVec 32) : Fin 1 → Nat :=
  let c192_i32_118 : BitVec 32 := 192#32
  let c0_i32_54 : BitVec 32 := 0#32
  let c1_i32_56 : BitVec 32 := 1#32
  let arg13 : BitVec 32 := Scf.iv c0_i32_54 c1_i32_56 k0_t12
  let v49 : BitVec 32 := Scalar.addi c192_i32_118 arg13
  let c80_i32_119 : BitVec 32 := 80#32
  let v50 : BitVec 32 := Scalar.muli v49 c80_i32_119
  let v74 : BitVec 32 := Scalar.addi v50 c0_i32_126
  let v75 : Index := Scalar.indexCast v74
  ![v75.toNat]
@[reducible] def k0_t13_loop : Scf.Loop 32 :=
  let c0_i32_59 : BitVec 32 := 0#32
  let c4_i32_60 : BitVec 32 := 4#32
  let v20 : BitVec 32 := Scalar.addi c0_i32_59 c4_i32_60
  let c1_i32_61 : BitVec 32 := 1#32
  ⟨c0_i32_59, v20, c1_i32_61⟩
def k0_off944 (k0_t13 : Fin k0_t13_loop.trips) : Fin 1 → Nat :=
  let c256_i32_118 : BitVec 32 := 256#32
  let c0_i32_59 : BitVec 32 := 0#32
  let c1_i32_61 : BitVec 32 := 1#32
  let arg13 : BitVec 32 := Scf.iv c0_i32_59 c1_i32_61 k0_t13
  let c16_i32 : BitVec 32 := 16#32
  let v37 : BitVec 32 := Scalar.muli arg13 c16_i32
  let v38 : BitVec 32 := Scalar.addi c256_i32_118 v37
  let v39 : Index := Scalar.indexCast v38
  ![v39.toNat]
def k0_off945 (k0_t13 : Fin k0_t13_loop.trips) (c0_i32_120 : BitVec 32) : Fin 1 → Nat :=
  let c1280_i32 : BitVec 32 := 1280#32
  let c0_i32_59 : BitVec 32 := 0#32
  let c1_i32_61 : BitVec 32 := 1#32
  let arg13 : BitVec 32 := Scf.iv c0_i32_59 c1_i32_61 k0_t13
  let c80_i32_119 : BitVec 32 := 80#32
  let v42 : BitVec 32 := Scalar.muli arg13 c80_i32_119
  let v43 : BitVec 32 := Scalar.addi c1280_i32 v42
  let v44 : BitVec 32 := Scalar.addi v43 c0_i32_120
  let v45 : Index := Scalar.indexCast v44
  ![v45.toNat]
def k0_off946 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_131 : BitVec 32 := 16#32
  let v72 : BitVec 32 := Scalar.muli arg13 c16_i32_131
  let c0_i32_132 : BitVec 32 := 0#32
  let v73 : BitVec 32 := Scalar.addi v72 c0_i32_132
  let c0_i32_133 : BitVec 32 := 0#32
  ![v73.toNat, 0]
def k0_off947 (v75 : BitVec 32) : Fin 2 → Nat :=
  let c0_i32_134 : BitVec 32 := 0#32
  ![v75.toNat, 0]

def k0_chk385 (v75 : BitVec 32) : Prop :=
  (∀ a, (k0_off947 v75) a + S1x64.size a ≤ S1000000x64.size a)
instance k0_chk385.dec : ∀ (v75 : BitVec 32), Decidable (k0_chk385 v75) := fun v75 => decidable_of_iff' _ (Iff.of_eq (k0_chk385.eq_1 v75))
theorem k0_off947_inb : ∀ (v75 : BitVec 32) (k0_hw385 : k0_chk385 v75), ∀ a, (k0_off947 v75) a + S1x64.size a ≤ S1000000x64.size a := fun v75 k0_hw385 => k0_hw385

def k0_off948 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_131 : BitVec 32 := 16#32
  let v72 : BitVec 32 := Scalar.muli arg13 c16_i32_131
  let c0_i32_132 : BitVec 32 := 0#32
  let v73 : BitVec 32 := Scalar.addi v72 c0_i32_132
  let c0_i32_135 : BitVec 32 := 0#32
  ![v73.toNat, 0]
def k0_off949 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_131 : BitVec 32 := 16#32
  let v72 : BitVec 32 := Scalar.muli arg13 c16_i32_131
  let c0_i32_132 : BitVec 32 := 0#32
  let v73 : BitVec 32 := Scalar.addi v72 c0_i32_132
  let c5_i32_137 : BitVec 32 := 5#32
  let v86 : BitVec 32 := Scalar.muli v73 c5_i32_137
  let c0_i32_138 : BitVec 32 := 0#32
  let v87 : BitVec 32 := Scalar.addi v86 c0_i32_138
  let c0_i32_139 : BitVec 32 := 0#32
  ![v87.toNat, 0]
def k0_off950 (v85 : BitVec 32) : Fin 2 → Nat :=
  let c0_i32_140 : BitVec 32 := 0#32
  ![v85.toNat, 0]

def k0_chk386 (v85 : BitVec 32) : Prop :=
  (∀ a, (k0_off950 v85) a + S1x64.size a ≤ S1000000x64.size a)
instance k0_chk386.dec : ∀ (v85 : BitVec 32), Decidable (k0_chk386 v85) := fun v85 => decidable_of_iff' _ (Iff.of_eq (k0_chk386.eq_1 v85))
theorem k0_off950_inb : ∀ (v85 : BitVec 32) (k0_hw386 : k0_chk386 v85), ∀ a, (k0_off950 v85) a + S1x64.size a ≤ S1000000x64.size a := fun v85 k0_hw386 => k0_hw386

def k0_off951 (k0_t13 : Fin k0_t13_loop.trips) (c0_i32_138 : BitVec 32) : Fin 2 → Nat :=
  let c0_i32_59 : BitVec 32 := 0#32
  let c1_i32_61 : BitVec 32 := 1#32
  let arg13 : BitVec 32 := Scf.iv c0_i32_59 c1_i32_61 k0_t13
  let c16_i32_131 : BitVec 32 := 16#32
  let v72 : BitVec 32 := Scalar.muli arg13 c16_i32_131
  let c0_i32_132 : BitVec 32 := 0#32
  let v73 : BitVec 32 := Scalar.addi v72 c0_i32_132
  let c5_i32_137 : BitVec 32 := 5#32
  let v86 : BitVec 32 := Scalar.muli v73 c5_i32_137
  let v87 : BitVec 32 := Scalar.addi v86 c0_i32_138
  let c0_i32_141 : BitVec 32 := 0#32
  ![v87.toNat, 0]
def k0_off952 (v97 : BitVec 32) : Fin 2 → Nat :=
  let c0_i32_146 : BitVec 32 := 0#32
  ![v97.toNat, 0]

def k0_chk387 (v97 : BitVec 32) : Prop :=
  (∀ a, (k0_off952 v97) a + S1x64.size a ≤ S1000000x64.size a)
instance k0_chk387.dec : ∀ (v97 : BitVec 32), Decidable (k0_chk387 v97) := fun v97 => decidable_of_iff' _ (Iff.of_eq (k0_chk387.eq_1 v97))
theorem k0_off952_inb : ∀ (v97 : BitVec 32) (k0_hw387 : k0_chk387 v97), ∀ a, (k0_off952 v97) a + S1x64.size a ≤ S1000000x64.size a := fun v97 k0_hw387 => k0_hw387

def k0_off953 (k0_t13 : Fin k0_t13_loop.trips) (c1_i32_144 : BitVec 32) : Fin 2 → Nat :=
  let c0_i32_59 : BitVec 32 := 0#32
  let c1_i32_61 : BitVec 32 := 1#32
  let arg13 : BitVec 32 := Scf.iv c0_i32_59 c1_i32_61 k0_t13
  let c16_i32_131 : BitVec 32 := 16#32
  let v72 : BitVec 32 := Scalar.muli arg13 c16_i32_131
  let c0_i32_132 : BitVec 32 := 0#32
  let v73 : BitVec 32 := Scalar.addi v72 c0_i32_132
  let c5_i32_143 : BitVec 32 := 5#32
  let v98 : BitVec 32 := Scalar.muli v73 c5_i32_143
  let v99 : BitVec 32 := Scalar.addi v98 c1_i32_144
  let c0_i32_147 : BitVec 32 := 0#32
  ![v99.toNat, 0]
def k0_off954 (v109 : BitVec 32) : Fin 2 → Nat :=
  let c0_i32_152 : BitVec 32 := 0#32
  ![v109.toNat, 0]

def k0_chk388 (v109 : BitVec 32) : Prop :=
  (∀ a, (k0_off954 v109) a + S1x64.size a ≤ S1000000x64.size a)
instance k0_chk388.dec : ∀ (v109 : BitVec 32), Decidable (k0_chk388 v109) := fun v109 => decidable_of_iff' _ (Iff.of_eq (k0_chk388.eq_1 v109))
theorem k0_off954_inb : ∀ (v109 : BitVec 32) (k0_hw388 : k0_chk388 v109), ∀ a, (k0_off954 v109) a + S1x64.size a ≤ S1000000x64.size a := fun v109 k0_hw388 => k0_hw388

def k0_off955 (k0_t13 : Fin k0_t13_loop.trips) (c2_i32_150 : BitVec 32) : Fin 2 → Nat :=
  let c0_i32_59 : BitVec 32 := 0#32
  let c1_i32_61 : BitVec 32 := 1#32
  let arg13 : BitVec 32 := Scf.iv c0_i32_59 c1_i32_61 k0_t13
  let c16_i32_131 : BitVec 32 := 16#32
  let v72 : BitVec 32 := Scalar.muli arg13 c16_i32_131
  let c0_i32_132 : BitVec 32 := 0#32
  let v73 : BitVec 32 := Scalar.addi v72 c0_i32_132
  let c5_i32_149 : BitVec 32 := 5#32
  let v110 : BitVec 32 := Scalar.muli v73 c5_i32_149
  let v111 : BitVec 32 := Scalar.addi v110 c2_i32_150
  let c0_i32_153 : BitVec 32 := 0#32
  ![v111.toNat, 0]
def k0_off956 (v121 : BitVec 32) : Fin 2 → Nat :=
  let c0_i32_157 : BitVec 32 := 0#32
  ![v121.toNat, 0]

def k0_chk389 (v121 : BitVec 32) : Prop :=
  (∀ a, (k0_off956 v121) a + S1x64.size a ≤ S1000000x64.size a)
instance k0_chk389.dec : ∀ (v121 : BitVec 32), Decidable (k0_chk389 v121) := fun v121 => decidable_of_iff' _ (Iff.of_eq (k0_chk389.eq_1 v121))
theorem k0_off956_inb : ∀ (v121 : BitVec 32) (k0_hw389 : k0_chk389 v121), ∀ a, (k0_off956 v121) a + S1x64.size a ≤ S1000000x64.size a := fun v121 k0_hw389 => k0_hw389

def k0_off957 (k0_t13 : Fin k0_t13_loop.trips) (c3_i32 : BitVec 32) : Fin 2 → Nat :=
  let c0_i32_59 : BitVec 32 := 0#32
  let c1_i32_61 : BitVec 32 := 1#32
  let arg13 : BitVec 32 := Scf.iv c0_i32_59 c1_i32_61 k0_t13
  let c16_i32_131 : BitVec 32 := 16#32
  let v72 : BitVec 32 := Scalar.muli arg13 c16_i32_131
  let c0_i32_132 : BitVec 32 := 0#32
  let v73 : BitVec 32 := Scalar.addi v72 c0_i32_132
  let c5_i32_155 : BitVec 32 := 5#32
  let v122 : BitVec 32 := Scalar.muli v73 c5_i32_155
  let v123 : BitVec 32 := Scalar.addi v122 c3_i32
  let c0_i32_158 : BitVec 32 := 0#32
  ![v123.toNat, 0]
def k0_off958 (v133 : BitVec 32) : Fin 2 → Nat :=
  let c0_i32_163 : BitVec 32 := 0#32
  ![v133.toNat, 0]

def k0_chk390 (v133 : BitVec 32) : Prop :=
  (∀ a, (k0_off958 v133) a + S1x64.size a ≤ S1000000x64.size a)
instance k0_chk390.dec : ∀ (v133 : BitVec 32), Decidable (k0_chk390 v133) := fun v133 => decidable_of_iff' _ (Iff.of_eq (k0_chk390.eq_1 v133))
theorem k0_off958_inb : ∀ (v133 : BitVec 32) (k0_hw390 : k0_chk390 v133), ∀ a, (k0_off958 v133) a + S1x64.size a ≤ S1000000x64.size a := fun v133 k0_hw390 => k0_hw390

def k0_off959 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_131 : BitVec 32 := 16#32
  let v72 : BitVec 32 := Scalar.muli arg13 c16_i32_131
  let c0_i32_132 : BitVec 32 := 0#32
  let v73 : BitVec 32 := Scalar.addi v72 c0_i32_132
  let c5_i32_160 : BitVec 32 := 5#32
  let v134 : BitVec 32 := Scalar.muli v73 c5_i32_160
  let c4_i32_161 : BitVec 32 := 4#32
  let v135 : BitVec 32 := Scalar.addi v134 c4_i32_161
  let c0_i32_164 : BitVec 32 := 0#32
  ![v135.toNat, 0]
def k0_off960 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_166 : BitVec 32 := 16#32
  let v144 : BitVec 32 := Scalar.muli arg13 c16_i32_166
  let c1_i32_167 : BitVec 32 := 1#32
  let v145 : BitVec 32 := Scalar.addi v144 c1_i32_167
  let c0_i32_168 : BitVec 32 := 0#32
  ![v145.toNat, 0]
def k0_off961 (v147 : BitVec 32) : Fin 2 → Nat :=
  let c0_i32_169 : BitVec 32 := 0#32
  ![v147.toNat, 0]

def k0_chk391 (v147 : BitVec 32) : Prop :=
  (∀ a, (k0_off961 v147) a + S1x64.size a ≤ S1000000x64.size a)
instance k0_chk391.dec : ∀ (v147 : BitVec 32), Decidable (k0_chk391 v147) := fun v147 => decidable_of_iff' _ (Iff.of_eq (k0_chk391.eq_1 v147))
theorem k0_off961_inb : ∀ (v147 : BitVec 32) (k0_hw391 : k0_chk391 v147), ∀ a, (k0_off961 v147) a + S1x64.size a ≤ S1000000x64.size a := fun v147 k0_hw391 => k0_hw391

def k0_off962 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_166 : BitVec 32 := 16#32
  let v144 : BitVec 32 := Scalar.muli arg13 c16_i32_166
  let c1_i32_167 : BitVec 32 := 1#32
  let v145 : BitVec 32 := Scalar.addi v144 c1_i32_167
  let c0_i32_170 : BitVec 32 := 0#32
  ![v145.toNat, 0]
def k0_off963 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_166 : BitVec 32 := 16#32
  let v144 : BitVec 32 := Scalar.muli arg13 c16_i32_166
  let c1_i32_167 : BitVec 32 := 1#32
  let v145 : BitVec 32 := Scalar.addi v144 c1_i32_167
  let c5_i32_172 : BitVec 32 := 5#32
  let v158 : BitVec 32 := Scalar.muli v145 c5_i32_172
  let c0_i32_173 : BitVec 32 := 0#32
  let v159 : BitVec 32 := Scalar.addi v158 c0_i32_173
  let c0_i32_174 : BitVec 32 := 0#32
  ![v159.toNat, 0]
def k0_off964 (v157 : BitVec 32) : Fin 2 → Nat :=
  let c0_i32_175 : BitVec 32 := 0#32
  ![v157.toNat, 0]

def k0_chk392 (v157 : BitVec 32) : Prop :=
  (∀ a, (k0_off964 v157) a + S1x64.size a ≤ S1000000x64.size a)
instance k0_chk392.dec : ∀ (v157 : BitVec 32), Decidable (k0_chk392 v157) := fun v157 => decidable_of_iff' _ (Iff.of_eq (k0_chk392.eq_1 v157))
theorem k0_off964_inb : ∀ (v157 : BitVec 32) (k0_hw392 : k0_chk392 v157), ∀ a, (k0_off964 v157) a + S1x64.size a ≤ S1000000x64.size a := fun v157 k0_hw392 => k0_hw392

def k0_off965 (k0_t13 : Fin k0_t13_loop.trips) (c0_i32_173 : BitVec 32) : Fin 2 → Nat :=
  let c0_i32_59 : BitVec 32 := 0#32
  let c1_i32_61 : BitVec 32 := 1#32
  let arg13 : BitVec 32 := Scf.iv c0_i32_59 c1_i32_61 k0_t13
  let c16_i32_166 : BitVec 32 := 16#32
  let v144 : BitVec 32 := Scalar.muli arg13 c16_i32_166
  let c1_i32_167 : BitVec 32 := 1#32
  let v145 : BitVec 32 := Scalar.addi v144 c1_i32_167
  let c5_i32_172 : BitVec 32 := 5#32
  let v158 : BitVec 32 := Scalar.muli v145 c5_i32_172
  let v159 : BitVec 32 := Scalar.addi v158 c0_i32_173
  let c0_i32_176 : BitVec 32 := 0#32
  ![v159.toNat, 0]
def k0_off966 (v169 : BitVec 32) : Fin 2 → Nat :=
  let c0_i32_181 : BitVec 32 := 0#32
  ![v169.toNat, 0]

def k0_chk393 (v169 : BitVec 32) : Prop :=
  (∀ a, (k0_off966 v169) a + S1x64.size a ≤ S1000000x64.size a)
instance k0_chk393.dec : ∀ (v169 : BitVec 32), Decidable (k0_chk393 v169) := fun v169 => decidable_of_iff' _ (Iff.of_eq (k0_chk393.eq_1 v169))
theorem k0_off966_inb : ∀ (v169 : BitVec 32) (k0_hw393 : k0_chk393 v169), ∀ a, (k0_off966 v169) a + S1x64.size a ≤ S1000000x64.size a := fun v169 k0_hw393 => k0_hw393

def k0_off967 (k0_t13 : Fin k0_t13_loop.trips) (c1_i32_179 : BitVec 32) : Fin 2 → Nat :=
  let c0_i32_59 : BitVec 32 := 0#32
  let c1_i32_61 : BitVec 32 := 1#32
  let arg13 : BitVec 32 := Scf.iv c0_i32_59 c1_i32_61 k0_t13
  let c16_i32_166 : BitVec 32 := 16#32
  let v144 : BitVec 32 := Scalar.muli arg13 c16_i32_166
  let c1_i32_167 : BitVec 32 := 1#32
  let v145 : BitVec 32 := Scalar.addi v144 c1_i32_167
  let c5_i32_178 : BitVec 32 := 5#32
  let v170 : BitVec 32 := Scalar.muli v145 c5_i32_178
  let v171 : BitVec 32 := Scalar.addi v170 c1_i32_179
  let c0_i32_182 : BitVec 32 := 0#32
  ![v171.toNat, 0]
def k0_off968 (v181 : BitVec 32) : Fin 2 → Nat :=
  let c0_i32_187 : BitVec 32 := 0#32
  ![v181.toNat, 0]

def k0_chk394 (v181 : BitVec 32) : Prop :=
  (∀ a, (k0_off968 v181) a + S1x64.size a ≤ S1000000x64.size a)
instance k0_chk394.dec : ∀ (v181 : BitVec 32), Decidable (k0_chk394 v181) := fun v181 => decidable_of_iff' _ (Iff.of_eq (k0_chk394.eq_1 v181))
theorem k0_off968_inb : ∀ (v181 : BitVec 32) (k0_hw394 : k0_chk394 v181), ∀ a, (k0_off968 v181) a + S1x64.size a ≤ S1000000x64.size a := fun v181 k0_hw394 => k0_hw394

def k0_off969 (k0_t13 : Fin k0_t13_loop.trips) (c2_i32_185 : BitVec 32) : Fin 2 → Nat :=
  let c0_i32_59 : BitVec 32 := 0#32
  let c1_i32_61 : BitVec 32 := 1#32
  let arg13 : BitVec 32 := Scf.iv c0_i32_59 c1_i32_61 k0_t13
  let c16_i32_166 : BitVec 32 := 16#32
  let v144 : BitVec 32 := Scalar.muli arg13 c16_i32_166
  let c1_i32_167 : BitVec 32 := 1#32
  let v145 : BitVec 32 := Scalar.addi v144 c1_i32_167
  let c5_i32_184 : BitVec 32 := 5#32
  let v182 : BitVec 32 := Scalar.muli v145 c5_i32_184
  let v183 : BitVec 32 := Scalar.addi v182 c2_i32_185
  let c0_i32_188 : BitVec 32 := 0#32
  ![v183.toNat, 0]
def k0_off970 (v193 : BitVec 32) : Fin 2 → Nat :=
  let c0_i32_193 : BitVec 32 := 0#32
  ![v193.toNat, 0]

def k0_chk395 (v193 : BitVec 32) : Prop :=
  (∀ a, (k0_off970 v193) a + S1x64.size a ≤ S1000000x64.size a)
instance k0_chk395.dec : ∀ (v193 : BitVec 32), Decidable (k0_chk395 v193) := fun v193 => decidable_of_iff' _ (Iff.of_eq (k0_chk395.eq_1 v193))
theorem k0_off970_inb : ∀ (v193 : BitVec 32) (k0_hw395 : k0_chk395 v193), ∀ a, (k0_off970 v193) a + S1x64.size a ≤ S1000000x64.size a := fun v193 k0_hw395 => k0_hw395

def k0_off971 (k0_t13 : Fin k0_t13_loop.trips) (c3_i32_191 : BitVec 32) : Fin 2 → Nat :=
  let c0_i32_59 : BitVec 32 := 0#32
  let c1_i32_61 : BitVec 32 := 1#32
  let arg13 : BitVec 32 := Scf.iv c0_i32_59 c1_i32_61 k0_t13
  let c16_i32_166 : BitVec 32 := 16#32
  let v144 : BitVec 32 := Scalar.muli arg13 c16_i32_166
  let c1_i32_167 : BitVec 32 := 1#32
  let v145 : BitVec 32 := Scalar.addi v144 c1_i32_167
  let c5_i32_190 : BitVec 32 := 5#32
  let v194 : BitVec 32 := Scalar.muli v145 c5_i32_190
  let v195 : BitVec 32 := Scalar.addi v194 c3_i32_191
  let c0_i32_194 : BitVec 32 := 0#32
  ![v195.toNat, 0]
def k0_off972 (v205 : BitVec 32) : Fin 2 → Nat :=
  let c0_i32_199 : BitVec 32 := 0#32
  ![v205.toNat, 0]

def k0_chk396 (v205 : BitVec 32) : Prop :=
  (∀ a, (k0_off972 v205) a + S1x64.size a ≤ S1000000x64.size a)
instance k0_chk396.dec : ∀ (v205 : BitVec 32), Decidable (k0_chk396 v205) := fun v205 => decidable_of_iff' _ (Iff.of_eq (k0_chk396.eq_1 v205))
theorem k0_off972_inb : ∀ (v205 : BitVec 32) (k0_hw396 : k0_chk396 v205), ∀ a, (k0_off972 v205) a + S1x64.size a ≤ S1000000x64.size a := fun v205 k0_hw396 => k0_hw396

def k0_off973 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_166 : BitVec 32 := 16#32
  let v144 : BitVec 32 := Scalar.muli arg13 c16_i32_166
  let c1_i32_167 : BitVec 32 := 1#32
  let v145 : BitVec 32 := Scalar.addi v144 c1_i32_167
  let c5_i32_196 : BitVec 32 := 5#32
  let v206 : BitVec 32 := Scalar.muli v145 c5_i32_196
  let c4_i32_197 : BitVec 32 := 4#32
  let v207 : BitVec 32 := Scalar.addi v206 c4_i32_197
  let c0_i32_200 : BitVec 32 := 0#32
  ![v207.toNat, 0]
def k0_off974 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_202 : BitVec 32 := 16#32
  let v216 : BitVec 32 := Scalar.muli arg13 c16_i32_202
  let c2_i32_203 : BitVec 32 := 2#32
  let v217 : BitVec 32 := Scalar.addi v216 c2_i32_203
  let c0_i32_204 : BitVec 32 := 0#32
  ![v217.toNat, 0]
def k0_off975 (v219 : BitVec 32) : Fin 2 → Nat :=
  let c0_i32_205 : BitVec 32 := 0#32
  ![v219.toNat, 0]

def k0_chk397 (v219 : BitVec 32) : Prop :=
  (∀ a, (k0_off975 v219) a + S1x64.size a ≤ S1000000x64.size a)
instance k0_chk397.dec : ∀ (v219 : BitVec 32), Decidable (k0_chk397 v219) := fun v219 => decidable_of_iff' _ (Iff.of_eq (k0_chk397.eq_1 v219))
theorem k0_off975_inb : ∀ (v219 : BitVec 32) (k0_hw397 : k0_chk397 v219), ∀ a, (k0_off975 v219) a + S1x64.size a ≤ S1000000x64.size a := fun v219 k0_hw397 => k0_hw397

def k0_off976 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_202 : BitVec 32 := 16#32
  let v216 : BitVec 32 := Scalar.muli arg13 c16_i32_202
  let c2_i32_203 : BitVec 32 := 2#32
  let v217 : BitVec 32 := Scalar.addi v216 c2_i32_203
  let c0_i32_206 : BitVec 32 := 0#32
  ![v217.toNat, 0]
def k0_off977 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_202 : BitVec 32 := 16#32
  let v216 : BitVec 32 := Scalar.muli arg13 c16_i32_202
  let c2_i32_203 : BitVec 32 := 2#32
  let v217 : BitVec 32 := Scalar.addi v216 c2_i32_203
  let c5_i32_208 : BitVec 32 := 5#32
  let v230 : BitVec 32 := Scalar.muli v217 c5_i32_208
  let c0_i32_209 : BitVec 32 := 0#32
  let v231 : BitVec 32 := Scalar.addi v230 c0_i32_209
  let c0_i32_210 : BitVec 32 := 0#32
  ![v231.toNat, 0]
def k0_off978 (v229 : BitVec 32) : Fin 2 → Nat :=
  let c0_i32_211 : BitVec 32 := 0#32
  ![v229.toNat, 0]

def k0_chk398 (v229 : BitVec 32) : Prop :=
  (∀ a, (k0_off978 v229) a + S1x64.size a ≤ S1000000x64.size a)
instance k0_chk398.dec : ∀ (v229 : BitVec 32), Decidable (k0_chk398 v229) := fun v229 => decidable_of_iff' _ (Iff.of_eq (k0_chk398.eq_1 v229))
theorem k0_off978_inb : ∀ (v229 : BitVec 32) (k0_hw398 : k0_chk398 v229), ∀ a, (k0_off978 v229) a + S1x64.size a ≤ S1000000x64.size a := fun v229 k0_hw398 => k0_hw398

def k0_off979 (k0_t13 : Fin k0_t13_loop.trips) (c0_i32_209 : BitVec 32) : Fin 2 → Nat :=
  let c0_i32_59 : BitVec 32 := 0#32
  let c1_i32_61 : BitVec 32 := 1#32
  let arg13 : BitVec 32 := Scf.iv c0_i32_59 c1_i32_61 k0_t13
  let c16_i32_202 : BitVec 32 := 16#32
  let v216 : BitVec 32 := Scalar.muli arg13 c16_i32_202
  let c2_i32_203 : BitVec 32 := 2#32
  let v217 : BitVec 32 := Scalar.addi v216 c2_i32_203
  let c5_i32_208 : BitVec 32 := 5#32
  let v230 : BitVec 32 := Scalar.muli v217 c5_i32_208
  let v231 : BitVec 32 := Scalar.addi v230 c0_i32_209
  let c0_i32_212 : BitVec 32 := 0#32
  ![v231.toNat, 0]
def k0_off980 (v241 : BitVec 32) : Fin 2 → Nat :=
  let c0_i32_217 : BitVec 32 := 0#32
  ![v241.toNat, 0]

def k0_chk399 (v241 : BitVec 32) : Prop :=
  (∀ a, (k0_off980 v241) a + S1x64.size a ≤ S1000000x64.size a)
instance k0_chk399.dec : ∀ (v241 : BitVec 32), Decidable (k0_chk399 v241) := fun v241 => decidable_of_iff' _ (Iff.of_eq (k0_chk399.eq_1 v241))
theorem k0_off980_inb : ∀ (v241 : BitVec 32) (k0_hw399 : k0_chk399 v241), ∀ a, (k0_off980 v241) a + S1x64.size a ≤ S1000000x64.size a := fun v241 k0_hw399 => k0_hw399

def k0_off981 (k0_t13 : Fin k0_t13_loop.trips) (c1_i32_215 : BitVec 32) : Fin 2 → Nat :=
  let c0_i32_59 : BitVec 32 := 0#32
  let c1_i32_61 : BitVec 32 := 1#32
  let arg13 : BitVec 32 := Scf.iv c0_i32_59 c1_i32_61 k0_t13
  let c16_i32_202 : BitVec 32 := 16#32
  let v216 : BitVec 32 := Scalar.muli arg13 c16_i32_202
  let c2_i32_203 : BitVec 32 := 2#32
  let v217 : BitVec 32 := Scalar.addi v216 c2_i32_203
  let c5_i32_214 : BitVec 32 := 5#32
  let v242 : BitVec 32 := Scalar.muli v217 c5_i32_214
  let v243 : BitVec 32 := Scalar.addi v242 c1_i32_215
  let c0_i32_218 : BitVec 32 := 0#32
  ![v243.toNat, 0]
def k0_off982 (v253 : BitVec 32) : Fin 2 → Nat :=
  let c0_i32_223 : BitVec 32 := 0#32
  ![v253.toNat, 0]

def k0_chk400 (v253 : BitVec 32) : Prop :=
  (∀ a, (k0_off982 v253) a + S1x64.size a ≤ S1000000x64.size a)
instance k0_chk400.dec : ∀ (v253 : BitVec 32), Decidable (k0_chk400 v253) := fun v253 => decidable_of_iff' _ (Iff.of_eq (k0_chk400.eq_1 v253))
theorem k0_off982_inb : ∀ (v253 : BitVec 32) (k0_hw400 : k0_chk400 v253), ∀ a, (k0_off982 v253) a + S1x64.size a ≤ S1000000x64.size a := fun v253 k0_hw400 => k0_hw400

def k0_off983 (k0_t13 : Fin k0_t13_loop.trips) (c2_i32_221 : BitVec 32) : Fin 2 → Nat :=
  let c0_i32_59 : BitVec 32 := 0#32
  let c1_i32_61 : BitVec 32 := 1#32
  let arg13 : BitVec 32 := Scf.iv c0_i32_59 c1_i32_61 k0_t13
  let c16_i32_202 : BitVec 32 := 16#32
  let v216 : BitVec 32 := Scalar.muli arg13 c16_i32_202
  let c2_i32_203 : BitVec 32 := 2#32
  let v217 : BitVec 32 := Scalar.addi v216 c2_i32_203
  let c5_i32_220 : BitVec 32 := 5#32
  let v254 : BitVec 32 := Scalar.muli v217 c5_i32_220
  let v255 : BitVec 32 := Scalar.addi v254 c2_i32_221
  let c0_i32_224 : BitVec 32 := 0#32
  ![v255.toNat, 0]
def k0_off984 (v265 : BitVec 32) : Fin 2 → Nat :=
  let c0_i32_229 : BitVec 32 := 0#32
  ![v265.toNat, 0]

def k0_chk401 (v265 : BitVec 32) : Prop :=
  (∀ a, (k0_off984 v265) a + S1x64.size a ≤ S1000000x64.size a)
instance k0_chk401.dec : ∀ (v265 : BitVec 32), Decidable (k0_chk401 v265) := fun v265 => decidable_of_iff' _ (Iff.of_eq (k0_chk401.eq_1 v265))
theorem k0_off984_inb : ∀ (v265 : BitVec 32) (k0_hw401 : k0_chk401 v265), ∀ a, (k0_off984 v265) a + S1x64.size a ≤ S1000000x64.size a := fun v265 k0_hw401 => k0_hw401

def k0_off985 (k0_t13 : Fin k0_t13_loop.trips) (c3_i32_227 : BitVec 32) : Fin 2 → Nat :=
  let c0_i32_59 : BitVec 32 := 0#32
  let c1_i32_61 : BitVec 32 := 1#32
  let arg13 : BitVec 32 := Scf.iv c0_i32_59 c1_i32_61 k0_t13
  let c16_i32_202 : BitVec 32 := 16#32
  let v216 : BitVec 32 := Scalar.muli arg13 c16_i32_202
  let c2_i32_203 : BitVec 32 := 2#32
  let v217 : BitVec 32 := Scalar.addi v216 c2_i32_203
  let c5_i32_226 : BitVec 32 := 5#32
  let v266 : BitVec 32 := Scalar.muli v217 c5_i32_226
  let v267 : BitVec 32 := Scalar.addi v266 c3_i32_227
  let c0_i32_230 : BitVec 32 := 0#32
  ![v267.toNat, 0]
def k0_off986 (v277 : BitVec 32) : Fin 2 → Nat :=
  let c0_i32_235 : BitVec 32 := 0#32
  ![v277.toNat, 0]

def k0_chk402 (v277 : BitVec 32) : Prop :=
  (∀ a, (k0_off986 v277) a + S1x64.size a ≤ S1000000x64.size a)
instance k0_chk402.dec : ∀ (v277 : BitVec 32), Decidable (k0_chk402 v277) := fun v277 => decidable_of_iff' _ (Iff.of_eq (k0_chk402.eq_1 v277))
theorem k0_off986_inb : ∀ (v277 : BitVec 32) (k0_hw402 : k0_chk402 v277), ∀ a, (k0_off986 v277) a + S1x64.size a ≤ S1000000x64.size a := fun v277 k0_hw402 => k0_hw402

def k0_off987 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_202 : BitVec 32 := 16#32
  let v216 : BitVec 32 := Scalar.muli arg13 c16_i32_202
  let c2_i32_203 : BitVec 32 := 2#32
  let v217 : BitVec 32 := Scalar.addi v216 c2_i32_203
  let c5_i32_232 : BitVec 32 := 5#32
  let v278 : BitVec 32 := Scalar.muli v217 c5_i32_232
  let c4_i32_233 : BitVec 32 := 4#32
  let v279 : BitVec 32 := Scalar.addi v278 c4_i32_233
  let c0_i32_236 : BitVec 32 := 0#32
  ![v279.toNat, 0]
def k0_off988 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_238 : BitVec 32 := 16#32
  let v288 : BitVec 32 := Scalar.muli arg13 c16_i32_238
  let c3_i32_239 : BitVec 32 := 3#32
  let v289 : BitVec 32 := Scalar.addi v288 c3_i32_239
  let c0_i32_240 : BitVec 32 := 0#32
  ![v289.toNat, 0]
def k0_off989 (v291 : BitVec 32) : Fin 2 → Nat :=
  let c0_i32_241 : BitVec 32 := 0#32
  ![v291.toNat, 0]

def k0_chk403 (v291 : BitVec 32) : Prop :=
  (∀ a, (k0_off989 v291) a + S1x64.size a ≤ S1000000x64.size a)
instance k0_chk403.dec : ∀ (v291 : BitVec 32), Decidable (k0_chk403 v291) := fun v291 => decidable_of_iff' _ (Iff.of_eq (k0_chk403.eq_1 v291))
theorem k0_off989_inb : ∀ (v291 : BitVec 32) (k0_hw403 : k0_chk403 v291), ∀ a, (k0_off989 v291) a + S1x64.size a ≤ S1000000x64.size a := fun v291 k0_hw403 => k0_hw403

def k0_off990 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_238 : BitVec 32 := 16#32
  let v288 : BitVec 32 := Scalar.muli arg13 c16_i32_238
  let c3_i32_239 : BitVec 32 := 3#32
  let v289 : BitVec 32 := Scalar.addi v288 c3_i32_239
  let c0_i32_242 : BitVec 32 := 0#32
  ![v289.toNat, 0]
def k0_off991 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_238 : BitVec 32 := 16#32
  let v288 : BitVec 32 := Scalar.muli arg13 c16_i32_238
  let c3_i32_239 : BitVec 32 := 3#32
  let v289 : BitVec 32 := Scalar.addi v288 c3_i32_239
  let c5_i32_244 : BitVec 32 := 5#32
  let v302 : BitVec 32 := Scalar.muli v289 c5_i32_244
  let c0_i32_245 : BitVec 32 := 0#32
  let v303 : BitVec 32 := Scalar.addi v302 c0_i32_245
  let c0_i32_246 : BitVec 32 := 0#32
  ![v303.toNat, 0]
def k0_off992 (v301 : BitVec 32) : Fin 2 → Nat :=
  let c0_i32_247 : BitVec 32 := 0#32
  ![v301.toNat, 0]

def k0_chk404 (v301 : BitVec 32) : Prop :=
  (∀ a, (k0_off992 v301) a + S1x64.size a ≤ S1000000x64.size a)
instance k0_chk404.dec : ∀ (v301 : BitVec 32), Decidable (k0_chk404 v301) := fun v301 => decidable_of_iff' _ (Iff.of_eq (k0_chk404.eq_1 v301))
theorem k0_off992_inb : ∀ (v301 : BitVec 32) (k0_hw404 : k0_chk404 v301), ∀ a, (k0_off992 v301) a + S1x64.size a ≤ S1000000x64.size a := fun v301 k0_hw404 => k0_hw404

def k0_off993 (k0_t13 : Fin k0_t13_loop.trips) (c0_i32_245 : BitVec 32) : Fin 2 → Nat :=
  let c0_i32_59 : BitVec 32 := 0#32
  let c1_i32_61 : BitVec 32 := 1#32
  let arg13 : BitVec 32 := Scf.iv c0_i32_59 c1_i32_61 k0_t13
  let c16_i32_238 : BitVec 32 := 16#32
  let v288 : BitVec 32 := Scalar.muli arg13 c16_i32_238
  let c3_i32_239 : BitVec 32 := 3#32
  let v289 : BitVec 32 := Scalar.addi v288 c3_i32_239
  let c5_i32_244 : BitVec 32 := 5#32
  let v302 : BitVec 32 := Scalar.muli v289 c5_i32_244
  let v303 : BitVec 32 := Scalar.addi v302 c0_i32_245
  let c0_i32_248 : BitVec 32 := 0#32
  ![v303.toNat, 0]
def k0_off994 (v313 : BitVec 32) : Fin 2 → Nat :=
  let c0_i32_253 : BitVec 32 := 0#32
  ![v313.toNat, 0]

def k0_chk405 (v313 : BitVec 32) : Prop :=
  (∀ a, (k0_off994 v313) a + S1x64.size a ≤ S1000000x64.size a)
instance k0_chk405.dec : ∀ (v313 : BitVec 32), Decidable (k0_chk405 v313) := fun v313 => decidable_of_iff' _ (Iff.of_eq (k0_chk405.eq_1 v313))
theorem k0_off994_inb : ∀ (v313 : BitVec 32) (k0_hw405 : k0_chk405 v313), ∀ a, (k0_off994 v313) a + S1x64.size a ≤ S1000000x64.size a := fun v313 k0_hw405 => k0_hw405

def k0_off995 (k0_t13 : Fin k0_t13_loop.trips) (c1_i32_251 : BitVec 32) : Fin 2 → Nat :=
  let c0_i32_59 : BitVec 32 := 0#32
  let c1_i32_61 : BitVec 32 := 1#32
  let arg13 : BitVec 32 := Scf.iv c0_i32_59 c1_i32_61 k0_t13
  let c16_i32_238 : BitVec 32 := 16#32
  let v288 : BitVec 32 := Scalar.muli arg13 c16_i32_238
  let c3_i32_239 : BitVec 32 := 3#32
  let v289 : BitVec 32 := Scalar.addi v288 c3_i32_239
  let c5_i32_250 : BitVec 32 := 5#32
  let v314 : BitVec 32 := Scalar.muli v289 c5_i32_250
  let v315 : BitVec 32 := Scalar.addi v314 c1_i32_251
  let c0_i32_254 : BitVec 32 := 0#32
  ![v315.toNat, 0]
def k0_off996 (v325 : BitVec 32) : Fin 2 → Nat :=
  let c0_i32_259 : BitVec 32 := 0#32
  ![v325.toNat, 0]

def k0_chk406 (v325 : BitVec 32) : Prop :=
  (∀ a, (k0_off996 v325) a + S1x64.size a ≤ S1000000x64.size a)
instance k0_chk406.dec : ∀ (v325 : BitVec 32), Decidable (k0_chk406 v325) := fun v325 => decidable_of_iff' _ (Iff.of_eq (k0_chk406.eq_1 v325))
theorem k0_off996_inb : ∀ (v325 : BitVec 32) (k0_hw406 : k0_chk406 v325), ∀ a, (k0_off996 v325) a + S1x64.size a ≤ S1000000x64.size a := fun v325 k0_hw406 => k0_hw406

def k0_off997 (k0_t13 : Fin k0_t13_loop.trips) (c2_i32_257 : BitVec 32) : Fin 2 → Nat :=
  let c0_i32_59 : BitVec 32 := 0#32
  let c1_i32_61 : BitVec 32 := 1#32
  let arg13 : BitVec 32 := Scf.iv c0_i32_59 c1_i32_61 k0_t13
  let c16_i32_238 : BitVec 32 := 16#32
  let v288 : BitVec 32 := Scalar.muli arg13 c16_i32_238
  let c3_i32_239 : BitVec 32 := 3#32
  let v289 : BitVec 32 := Scalar.addi v288 c3_i32_239
  let c5_i32_256 : BitVec 32 := 5#32
  let v326 : BitVec 32 := Scalar.muli v289 c5_i32_256
  let v327 : BitVec 32 := Scalar.addi v326 c2_i32_257
  let c0_i32_260 : BitVec 32 := 0#32
  ![v327.toNat, 0]
def k0_off998 (v337 : BitVec 32) : Fin 2 → Nat :=
  let c0_i32_265 : BitVec 32 := 0#32
  ![v337.toNat, 0]

def k0_chk407 (v337 : BitVec 32) : Prop :=
  (∀ a, (k0_off998 v337) a + S1x64.size a ≤ S1000000x64.size a)
instance k0_chk407.dec : ∀ (v337 : BitVec 32), Decidable (k0_chk407 v337) := fun v337 => decidable_of_iff' _ (Iff.of_eq (k0_chk407.eq_1 v337))
theorem k0_off998_inb : ∀ (v337 : BitVec 32) (k0_hw407 : k0_chk407 v337), ∀ a, (k0_off998 v337) a + S1x64.size a ≤ S1000000x64.size a := fun v337 k0_hw407 => k0_hw407

def k0_off999 (k0_t13 : Fin k0_t13_loop.trips) (c3_i32_263 : BitVec 32) : Fin 2 → Nat :=
  let c0_i32_59 : BitVec 32 := 0#32
  let c1_i32_61 : BitVec 32 := 1#32
  let arg13 : BitVec 32 := Scf.iv c0_i32_59 c1_i32_61 k0_t13
  let c16_i32_238 : BitVec 32 := 16#32
  let v288 : BitVec 32 := Scalar.muli arg13 c16_i32_238
  let c3_i32_239 : BitVec 32 := 3#32
  let v289 : BitVec 32 := Scalar.addi v288 c3_i32_239
  let c5_i32_262 : BitVec 32 := 5#32
  let v338 : BitVec 32 := Scalar.muli v289 c5_i32_262
  let v339 : BitVec 32 := Scalar.addi v338 c3_i32_263
  let c0_i32_266 : BitVec 32 := 0#32
  ![v339.toNat, 0]
def k0_off1000 (v349 : BitVec 32) : Fin 2 → Nat :=
  let c0_i32_271 : BitVec 32 := 0#32
  ![v349.toNat, 0]

def k0_chk408 (v349 : BitVec 32) : Prop :=
  (∀ a, (k0_off1000 v349) a + S1x64.size a ≤ S1000000x64.size a)
instance k0_chk408.dec : ∀ (v349 : BitVec 32), Decidable (k0_chk408 v349) := fun v349 => decidable_of_iff' _ (Iff.of_eq (k0_chk408.eq_1 v349))
theorem k0_off1000_inb : ∀ (v349 : BitVec 32) (k0_hw408 : k0_chk408 v349), ∀ a, (k0_off1000 v349) a + S1x64.size a ≤ S1000000x64.size a := fun v349 k0_hw408 => k0_hw408

def k0_off1001 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_238 : BitVec 32 := 16#32
  let v288 : BitVec 32 := Scalar.muli arg13 c16_i32_238
  let c3_i32_239 : BitVec 32 := 3#32
  let v289 : BitVec 32 := Scalar.addi v288 c3_i32_239
  let c5_i32_268 : BitVec 32 := 5#32
  let v350 : BitVec 32 := Scalar.muli v289 c5_i32_268
  let c4_i32_269 : BitVec 32 := 4#32
  let v351 : BitVec 32 := Scalar.addi v350 c4_i32_269
  let c0_i32_272 : BitVec 32 := 0#32
  ![v351.toNat, 0]
def k0_off1002 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_274 : BitVec 32 := 16#32
  let v360 : BitVec 32 := Scalar.muli arg13 c16_i32_274
  let c4_i32_275 : BitVec 32 := 4#32
  let v361 : BitVec 32 := Scalar.addi v360 c4_i32_275
  let c0_i32_276 : BitVec 32 := 0#32
  ![v361.toNat, 0]
def k0_off1003 (v363 : BitVec 32) : Fin 2 → Nat :=
  let c0_i32_277 : BitVec 32 := 0#32
  ![v363.toNat, 0]

def k0_chk409 (v363 : BitVec 32) : Prop :=
  (∀ a, (k0_off1003 v363) a + S1x64.size a ≤ S1000000x64.size a)
instance k0_chk409.dec : ∀ (v363 : BitVec 32), Decidable (k0_chk409 v363) := fun v363 => decidable_of_iff' _ (Iff.of_eq (k0_chk409.eq_1 v363))
theorem k0_off1003_inb : ∀ (v363 : BitVec 32) (k0_hw409 : k0_chk409 v363), ∀ a, (k0_off1003 v363) a + S1x64.size a ≤ S1000000x64.size a := fun v363 k0_hw409 => k0_hw409

def k0_off1004 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_274 : BitVec 32 := 16#32
  let v360 : BitVec 32 := Scalar.muli arg13 c16_i32_274
  let c4_i32_275 : BitVec 32 := 4#32
  let v361 : BitVec 32 := Scalar.addi v360 c4_i32_275
  let c0_i32_278 : BitVec 32 := 0#32
  ![v361.toNat, 0]
def k0_off1005 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_274 : BitVec 32 := 16#32
  let v360 : BitVec 32 := Scalar.muli arg13 c16_i32_274
  let c4_i32_275 : BitVec 32 := 4#32
  let v361 : BitVec 32 := Scalar.addi v360 c4_i32_275
  let c5_i32_280 : BitVec 32 := 5#32
  let v374 : BitVec 32 := Scalar.muli v361 c5_i32_280
  let c0_i32_281 : BitVec 32 := 0#32
  let v375 : BitVec 32 := Scalar.addi v374 c0_i32_281
  let c0_i32_282 : BitVec 32 := 0#32
  ![v375.toNat, 0]
def k0_off1006 (v373 : BitVec 32) : Fin 2 → Nat :=
  let c0_i32_283 : BitVec 32 := 0#32
  ![v373.toNat, 0]

def k0_chk410 (v373 : BitVec 32) : Prop :=
  (∀ a, (k0_off1006 v373) a + S1x64.size a ≤ S1000000x64.size a)
instance k0_chk410.dec : ∀ (v373 : BitVec 32), Decidable (k0_chk410 v373) := fun v373 => decidable_of_iff' _ (Iff.of_eq (k0_chk410.eq_1 v373))
theorem k0_off1006_inb : ∀ (v373 : BitVec 32) (k0_hw410 : k0_chk410 v373), ∀ a, (k0_off1006 v373) a + S1x64.size a ≤ S1000000x64.size a := fun v373 k0_hw410 => k0_hw410

def k0_off1007 (k0_t13 : Fin k0_t13_loop.trips) (c0_i32_281 : BitVec 32) : Fin 2 → Nat :=
  let c0_i32_59 : BitVec 32 := 0#32
  let c1_i32_61 : BitVec 32 := 1#32
  let arg13 : BitVec 32 := Scf.iv c0_i32_59 c1_i32_61 k0_t13
  let c16_i32_274 : BitVec 32 := 16#32
  let v360 : BitVec 32 := Scalar.muli arg13 c16_i32_274
  let c4_i32_275 : BitVec 32 := 4#32
  let v361 : BitVec 32 := Scalar.addi v360 c4_i32_275
  let c5_i32_280 : BitVec 32 := 5#32
  let v374 : BitVec 32 := Scalar.muli v361 c5_i32_280
  let v375 : BitVec 32 := Scalar.addi v374 c0_i32_281
  let c0_i32_284 : BitVec 32 := 0#32
  ![v375.toNat, 0]
def k0_off1008 (v385 : BitVec 32) : Fin 2 → Nat :=
  let c0_i32_289 : BitVec 32 := 0#32
  ![v385.toNat, 0]

def k0_chk411 (v385 : BitVec 32) : Prop :=
  (∀ a, (k0_off1008 v385) a + S1x64.size a ≤ S1000000x64.size a)
instance k0_chk411.dec : ∀ (v385 : BitVec 32), Decidable (k0_chk411 v385) := fun v385 => decidable_of_iff' _ (Iff.of_eq (k0_chk411.eq_1 v385))
theorem k0_off1008_inb : ∀ (v385 : BitVec 32) (k0_hw411 : k0_chk411 v385), ∀ a, (k0_off1008 v385) a + S1x64.size a ≤ S1000000x64.size a := fun v385 k0_hw411 => k0_hw411

def k0_off1009 (k0_t13 : Fin k0_t13_loop.trips) (c1_i32_287 : BitVec 32) : Fin 2 → Nat :=
  let c0_i32_59 : BitVec 32 := 0#32
  let c1_i32_61 : BitVec 32 := 1#32
  let arg13 : BitVec 32 := Scf.iv c0_i32_59 c1_i32_61 k0_t13
  let c16_i32_274 : BitVec 32 := 16#32
  let v360 : BitVec 32 := Scalar.muli arg13 c16_i32_274
  let c4_i32_275 : BitVec 32 := 4#32
  let v361 : BitVec 32 := Scalar.addi v360 c4_i32_275
  let c5_i32_286 : BitVec 32 := 5#32
  let v386 : BitVec 32 := Scalar.muli v361 c5_i32_286
  let v387 : BitVec 32 := Scalar.addi v386 c1_i32_287
  let c0_i32_290 : BitVec 32 := 0#32
  ![v387.toNat, 0]
def k0_off1010 (v397 : BitVec 32) : Fin 2 → Nat :=
  let c0_i32_295 : BitVec 32 := 0#32
  ![v397.toNat, 0]

def k0_chk412 (v397 : BitVec 32) : Prop :=
  (∀ a, (k0_off1010 v397) a + S1x64.size a ≤ S1000000x64.size a)
instance k0_chk412.dec : ∀ (v397 : BitVec 32), Decidable (k0_chk412 v397) := fun v397 => decidable_of_iff' _ (Iff.of_eq (k0_chk412.eq_1 v397))
theorem k0_off1010_inb : ∀ (v397 : BitVec 32) (k0_hw412 : k0_chk412 v397), ∀ a, (k0_off1010 v397) a + S1x64.size a ≤ S1000000x64.size a := fun v397 k0_hw412 => k0_hw412

def k0_off1011 (k0_t13 : Fin k0_t13_loop.trips) (c2_i32_293 : BitVec 32) : Fin 2 → Nat :=
  let c0_i32_59 : BitVec 32 := 0#32
  let c1_i32_61 : BitVec 32 := 1#32
  let arg13 : BitVec 32 := Scf.iv c0_i32_59 c1_i32_61 k0_t13
  let c16_i32_274 : BitVec 32 := 16#32
  let v360 : BitVec 32 := Scalar.muli arg13 c16_i32_274
  let c4_i32_275 : BitVec 32 := 4#32
  let v361 : BitVec 32 := Scalar.addi v360 c4_i32_275
  let c5_i32_292 : BitVec 32 := 5#32
  let v398 : BitVec 32 := Scalar.muli v361 c5_i32_292
  let v399 : BitVec 32 := Scalar.addi v398 c2_i32_293
  let c0_i32_296 : BitVec 32 := 0#32
  ![v399.toNat, 0]
def k0_off1012 (v409 : BitVec 32) : Fin 2 → Nat :=
  let c0_i32_301 : BitVec 32 := 0#32
  ![v409.toNat, 0]

def k0_chk413 (v409 : BitVec 32) : Prop :=
  (∀ a, (k0_off1012 v409) a + S1x64.size a ≤ S1000000x64.size a)
instance k0_chk413.dec : ∀ (v409 : BitVec 32), Decidable (k0_chk413 v409) := fun v409 => decidable_of_iff' _ (Iff.of_eq (k0_chk413.eq_1 v409))
theorem k0_off1012_inb : ∀ (v409 : BitVec 32) (k0_hw413 : k0_chk413 v409), ∀ a, (k0_off1012 v409) a + S1x64.size a ≤ S1000000x64.size a := fun v409 k0_hw413 => k0_hw413

def k0_off1013 (k0_t13 : Fin k0_t13_loop.trips) (c3_i32_299 : BitVec 32) : Fin 2 → Nat :=
  let c0_i32_59 : BitVec 32 := 0#32
  let c1_i32_61 : BitVec 32 := 1#32
  let arg13 : BitVec 32 := Scf.iv c0_i32_59 c1_i32_61 k0_t13
  let c16_i32_274 : BitVec 32 := 16#32
  let v360 : BitVec 32 := Scalar.muli arg13 c16_i32_274
  let c4_i32_275 : BitVec 32 := 4#32
  let v361 : BitVec 32 := Scalar.addi v360 c4_i32_275
  let c5_i32_298 : BitVec 32 := 5#32
  let v410 : BitVec 32 := Scalar.muli v361 c5_i32_298
  let v411 : BitVec 32 := Scalar.addi v410 c3_i32_299
  let c0_i32_302 : BitVec 32 := 0#32
  ![v411.toNat, 0]
def k0_off1014 (v421 : BitVec 32) : Fin 2 → Nat :=
  let c0_i32_307 : BitVec 32 := 0#32
  ![v421.toNat, 0]

def k0_chk414 (v421 : BitVec 32) : Prop :=
  (∀ a, (k0_off1014 v421) a + S1x64.size a ≤ S1000000x64.size a)
instance k0_chk414.dec : ∀ (v421 : BitVec 32), Decidable (k0_chk414 v421) := fun v421 => decidable_of_iff' _ (Iff.of_eq (k0_chk414.eq_1 v421))
theorem k0_off1014_inb : ∀ (v421 : BitVec 32) (k0_hw414 : k0_chk414 v421), ∀ a, (k0_off1014 v421) a + S1x64.size a ≤ S1000000x64.size a := fun v421 k0_hw414 => k0_hw414

def k0_off1015 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_274 : BitVec 32 := 16#32
  let v360 : BitVec 32 := Scalar.muli arg13 c16_i32_274
  let c4_i32_275 : BitVec 32 := 4#32
  let v361 : BitVec 32 := Scalar.addi v360 c4_i32_275
  let c5_i32_304 : BitVec 32 := 5#32
  let v422 : BitVec 32 := Scalar.muli v361 c5_i32_304
  let c4_i32_305 : BitVec 32 := 4#32
  let v423 : BitVec 32 := Scalar.addi v422 c4_i32_305
  let c0_i32_308 : BitVec 32 := 0#32
  ![v423.toNat, 0]
def k0_off1016 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_310 : BitVec 32 := 16#32
  let v432 : BitVec 32 := Scalar.muli arg13 c16_i32_310
  let c5_i32_311 : BitVec 32 := 5#32
  let v433 : BitVec 32 := Scalar.addi v432 c5_i32_311
  let c0_i32_312 : BitVec 32 := 0#32
  ![v433.toNat, 0]
def k0_off1017 (v435 : BitVec 32) : Fin 2 → Nat :=
  let c0_i32_313 : BitVec 32 := 0#32
  ![v435.toNat, 0]

def k0_chk415 (v435 : BitVec 32) : Prop :=
  (∀ a, (k0_off1017 v435) a + S1x64.size a ≤ S1000000x64.size a)
instance k0_chk415.dec : ∀ (v435 : BitVec 32), Decidable (k0_chk415 v435) := fun v435 => decidable_of_iff' _ (Iff.of_eq (k0_chk415.eq_1 v435))
theorem k0_off1017_inb : ∀ (v435 : BitVec 32) (k0_hw415 : k0_chk415 v435), ∀ a, (k0_off1017 v435) a + S1x64.size a ≤ S1000000x64.size a := fun v435 k0_hw415 => k0_hw415

def k0_off1018 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_310 : BitVec 32 := 16#32
  let v432 : BitVec 32 := Scalar.muli arg13 c16_i32_310
  let c5_i32_311 : BitVec 32 := 5#32
  let v433 : BitVec 32 := Scalar.addi v432 c5_i32_311
  let c0_i32_314 : BitVec 32 := 0#32
  ![v433.toNat, 0]
def k0_off1019 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_310 : BitVec 32 := 16#32
  let v432 : BitVec 32 := Scalar.muli arg13 c16_i32_310
  let c5_i32_311 : BitVec 32 := 5#32
  let v433 : BitVec 32 := Scalar.addi v432 c5_i32_311
  let c5_i32_316 : BitVec 32 := 5#32
  let v446 : BitVec 32 := Scalar.muli v433 c5_i32_316
  let c0_i32_317 : BitVec 32 := 0#32
  let v447 : BitVec 32 := Scalar.addi v446 c0_i32_317
  let c0_i32_318 : BitVec 32 := 0#32
  ![v447.toNat, 0]
def k0_off1020 (v445 : BitVec 32) : Fin 2 → Nat :=
  let c0_i32_319 : BitVec 32 := 0#32
  ![v445.toNat, 0]

def k0_chk416 (v445 : BitVec 32) : Prop :=
  (∀ a, (k0_off1020 v445) a + S1x64.size a ≤ S1000000x64.size a)
instance k0_chk416.dec : ∀ (v445 : BitVec 32), Decidable (k0_chk416 v445) := fun v445 => decidable_of_iff' _ (Iff.of_eq (k0_chk416.eq_1 v445))
theorem k0_off1020_inb : ∀ (v445 : BitVec 32) (k0_hw416 : k0_chk416 v445), ∀ a, (k0_off1020 v445) a + S1x64.size a ≤ S1000000x64.size a := fun v445 k0_hw416 => k0_hw416

def k0_off1021 (k0_t13 : Fin k0_t13_loop.trips) (c0_i32_317 : BitVec 32) : Fin 2 → Nat :=
  let c0_i32_59 : BitVec 32 := 0#32
  let c1_i32_61 : BitVec 32 := 1#32
  let arg13 : BitVec 32 := Scf.iv c0_i32_59 c1_i32_61 k0_t13
  let c16_i32_310 : BitVec 32 := 16#32
  let v432 : BitVec 32 := Scalar.muli arg13 c16_i32_310
  let c5_i32_311 : BitVec 32 := 5#32
  let v433 : BitVec 32 := Scalar.addi v432 c5_i32_311
  let c5_i32_316 : BitVec 32 := 5#32
  let v446 : BitVec 32 := Scalar.muli v433 c5_i32_316
  let v447 : BitVec 32 := Scalar.addi v446 c0_i32_317
  let c0_i32_320 : BitVec 32 := 0#32
  ![v447.toNat, 0]
def k0_off1022 (v457 : BitVec 32) : Fin 2 → Nat :=
  let c0_i32_325 : BitVec 32 := 0#32
  ![v457.toNat, 0]

def k0_chk417 (v457 : BitVec 32) : Prop :=
  (∀ a, (k0_off1022 v457) a + S1x64.size a ≤ S1000000x64.size a)
instance k0_chk417.dec : ∀ (v457 : BitVec 32), Decidable (k0_chk417 v457) := fun v457 => decidable_of_iff' _ (Iff.of_eq (k0_chk417.eq_1 v457))
theorem k0_off1022_inb : ∀ (v457 : BitVec 32) (k0_hw417 : k0_chk417 v457), ∀ a, (k0_off1022 v457) a + S1x64.size a ≤ S1000000x64.size a := fun v457 k0_hw417 => k0_hw417

def k0_off1023 (k0_t13 : Fin k0_t13_loop.trips) (c1_i32_323 : BitVec 32) : Fin 2 → Nat :=
  let c0_i32_59 : BitVec 32 := 0#32
  let c1_i32_61 : BitVec 32 := 1#32
  let arg13 : BitVec 32 := Scf.iv c0_i32_59 c1_i32_61 k0_t13
  let c16_i32_310 : BitVec 32 := 16#32
  let v432 : BitVec 32 := Scalar.muli arg13 c16_i32_310
  let c5_i32_311 : BitVec 32 := 5#32
  let v433 : BitVec 32 := Scalar.addi v432 c5_i32_311
  let c5_i32_322 : BitVec 32 := 5#32
  let v458 : BitVec 32 := Scalar.muli v433 c5_i32_322
  let v459 : BitVec 32 := Scalar.addi v458 c1_i32_323
  let c0_i32_326 : BitVec 32 := 0#32
  ![v459.toNat, 0]
def k0_off1024 (v469 : BitVec 32) : Fin 2 → Nat :=
  let c0_i32_331 : BitVec 32 := 0#32
  ![v469.toNat, 0]

def k0_chk418 (v469 : BitVec 32) : Prop :=
  (∀ a, (k0_off1024 v469) a + S1x64.size a ≤ S1000000x64.size a)
instance k0_chk418.dec : ∀ (v469 : BitVec 32), Decidable (k0_chk418 v469) := fun v469 => decidable_of_iff' _ (Iff.of_eq (k0_chk418.eq_1 v469))
theorem k0_off1024_inb : ∀ (v469 : BitVec 32) (k0_hw418 : k0_chk418 v469), ∀ a, (k0_off1024 v469) a + S1x64.size a ≤ S1000000x64.size a := fun v469 k0_hw418 => k0_hw418

def k0_off1025 (k0_t13 : Fin k0_t13_loop.trips) (c2_i32_329 : BitVec 32) : Fin 2 → Nat :=
  let c0_i32_59 : BitVec 32 := 0#32
  let c1_i32_61 : BitVec 32 := 1#32
  let arg13 : BitVec 32 := Scf.iv c0_i32_59 c1_i32_61 k0_t13
  let c16_i32_310 : BitVec 32 := 16#32
  let v432 : BitVec 32 := Scalar.muli arg13 c16_i32_310
  let c5_i32_311 : BitVec 32 := 5#32
  let v433 : BitVec 32 := Scalar.addi v432 c5_i32_311
  let c5_i32_328 : BitVec 32 := 5#32
  let v470 : BitVec 32 := Scalar.muli v433 c5_i32_328
  let v471 : BitVec 32 := Scalar.addi v470 c2_i32_329
  let c0_i32_332 : BitVec 32 := 0#32
  ![v471.toNat, 0]
def k0_off1026 (v481 : BitVec 32) : Fin 2 → Nat :=
  let c0_i32_337 : BitVec 32 := 0#32
  ![v481.toNat, 0]

def k0_chk419 (v481 : BitVec 32) : Prop :=
  (∀ a, (k0_off1026 v481) a + S1x64.size a ≤ S1000000x64.size a)
instance k0_chk419.dec : ∀ (v481 : BitVec 32), Decidable (k0_chk419 v481) := fun v481 => decidable_of_iff' _ (Iff.of_eq (k0_chk419.eq_1 v481))
theorem k0_off1026_inb : ∀ (v481 : BitVec 32) (k0_hw419 : k0_chk419 v481), ∀ a, (k0_off1026 v481) a + S1x64.size a ≤ S1000000x64.size a := fun v481 k0_hw419 => k0_hw419

def k0_off1027 (k0_t13 : Fin k0_t13_loop.trips) (c3_i32_335 : BitVec 32) : Fin 2 → Nat :=
  let c0_i32_59 : BitVec 32 := 0#32
  let c1_i32_61 : BitVec 32 := 1#32
  let arg13 : BitVec 32 := Scf.iv c0_i32_59 c1_i32_61 k0_t13
  let c16_i32_310 : BitVec 32 := 16#32
  let v432 : BitVec 32 := Scalar.muli arg13 c16_i32_310
  let c5_i32_311 : BitVec 32 := 5#32
  let v433 : BitVec 32 := Scalar.addi v432 c5_i32_311
  let c5_i32_334 : BitVec 32 := 5#32
  let v482 : BitVec 32 := Scalar.muli v433 c5_i32_334
  let v483 : BitVec 32 := Scalar.addi v482 c3_i32_335
  let c0_i32_338 : BitVec 32 := 0#32
  ![v483.toNat, 0]
def k0_off1028 (v493 : BitVec 32) : Fin 2 → Nat :=
  let c0_i32_343 : BitVec 32 := 0#32
  ![v493.toNat, 0]

def k0_chk420 (v493 : BitVec 32) : Prop :=
  (∀ a, (k0_off1028 v493) a + S1x64.size a ≤ S1000000x64.size a)
instance k0_chk420.dec : ∀ (v493 : BitVec 32), Decidable (k0_chk420 v493) := fun v493 => decidable_of_iff' _ (Iff.of_eq (k0_chk420.eq_1 v493))
theorem k0_off1028_inb : ∀ (v493 : BitVec 32) (k0_hw420 : k0_chk420 v493), ∀ a, (k0_off1028 v493) a + S1x64.size a ≤ S1000000x64.size a := fun v493 k0_hw420 => k0_hw420

def k0_off1029 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_310 : BitVec 32 := 16#32
  let v432 : BitVec 32 := Scalar.muli arg13 c16_i32_310
  let c5_i32_311 : BitVec 32 := 5#32
  let v433 : BitVec 32 := Scalar.addi v432 c5_i32_311
  let c5_i32_340 : BitVec 32 := 5#32
  let v494 : BitVec 32 := Scalar.muli v433 c5_i32_340
  let c4_i32_341 : BitVec 32 := 4#32
  let v495 : BitVec 32 := Scalar.addi v494 c4_i32_341
  let c0_i32_344 : BitVec 32 := 0#32
  ![v495.toNat, 0]
def k0_off1030 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_346 : BitVec 32 := 16#32
  let v504 : BitVec 32 := Scalar.muli arg13 c16_i32_346
  let c6_i32 : BitVec 32 := 6#32
  let v505 : BitVec 32 := Scalar.addi v504 c6_i32
  let c0_i32_347 : BitVec 32 := 0#32
  ![v505.toNat, 0]
def k0_off1031 (v507 : BitVec 32) : Fin 2 → Nat :=
  let c0_i32_348 : BitVec 32 := 0#32
  ![v507.toNat, 0]

def k0_chk421 (v507 : BitVec 32) : Prop :=
  (∀ a, (k0_off1031 v507) a + S1x64.size a ≤ S1000000x64.size a)
instance k0_chk421.dec : ∀ (v507 : BitVec 32), Decidable (k0_chk421 v507) := fun v507 => decidable_of_iff' _ (Iff.of_eq (k0_chk421.eq_1 v507))
theorem k0_off1031_inb : ∀ (v507 : BitVec 32) (k0_hw421 : k0_chk421 v507), ∀ a, (k0_off1031 v507) a + S1x64.size a ≤ S1000000x64.size a := fun v507 k0_hw421 => k0_hw421

def k0_off1032 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_346 : BitVec 32 := 16#32
  let v504 : BitVec 32 := Scalar.muli arg13 c16_i32_346
  let c6_i32 : BitVec 32 := 6#32
  let v505 : BitVec 32 := Scalar.addi v504 c6_i32
  let c0_i32_349 : BitVec 32 := 0#32
  ![v505.toNat, 0]
def k0_off1033 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_346 : BitVec 32 := 16#32
  let v504 : BitVec 32 := Scalar.muli arg13 c16_i32_346
  let c6_i32 : BitVec 32 := 6#32
  let v505 : BitVec 32 := Scalar.addi v504 c6_i32
  let c5_i32_351 : BitVec 32 := 5#32
  let v518 : BitVec 32 := Scalar.muli v505 c5_i32_351
  let c0_i32_352 : BitVec 32 := 0#32
  let v519 : BitVec 32 := Scalar.addi v518 c0_i32_352
  let c0_i32_353 : BitVec 32 := 0#32
  ![v519.toNat, 0]
def k0_off1034 (v517 : BitVec 32) : Fin 2 → Nat :=
  let c0_i32_354 : BitVec 32 := 0#32
  ![v517.toNat, 0]

def k0_chk422 (v517 : BitVec 32) : Prop :=
  (∀ a, (k0_off1034 v517) a + S1x64.size a ≤ S1000000x64.size a)
instance k0_chk422.dec : ∀ (v517 : BitVec 32), Decidable (k0_chk422 v517) := fun v517 => decidable_of_iff' _ (Iff.of_eq (k0_chk422.eq_1 v517))
theorem k0_off1034_inb : ∀ (v517 : BitVec 32) (k0_hw422 : k0_chk422 v517), ∀ a, (k0_off1034 v517) a + S1x64.size a ≤ S1000000x64.size a := fun v517 k0_hw422 => k0_hw422

def k0_off1035 (k0_t13 : Fin k0_t13_loop.trips) (c0_i32_352 : BitVec 32) : Fin 2 → Nat :=
  let c0_i32_59 : BitVec 32 := 0#32
  let c1_i32_61 : BitVec 32 := 1#32
  let arg13 : BitVec 32 := Scf.iv c0_i32_59 c1_i32_61 k0_t13
  let c16_i32_346 : BitVec 32 := 16#32
  let v504 : BitVec 32 := Scalar.muli arg13 c16_i32_346
  let c6_i32 : BitVec 32 := 6#32
  let v505 : BitVec 32 := Scalar.addi v504 c6_i32
  let c5_i32_351 : BitVec 32 := 5#32
  let v518 : BitVec 32 := Scalar.muli v505 c5_i32_351
  let v519 : BitVec 32 := Scalar.addi v518 c0_i32_352
  let c0_i32_355 : BitVec 32 := 0#32
  ![v519.toNat, 0]
def k0_off1036 (v529 : BitVec 32) : Fin 2 → Nat :=
  let c0_i32_360 : BitVec 32 := 0#32
  ![v529.toNat, 0]

def k0_chk423 (v529 : BitVec 32) : Prop :=
  (∀ a, (k0_off1036 v529) a + S1x64.size a ≤ S1000000x64.size a)
instance k0_chk423.dec : ∀ (v529 : BitVec 32), Decidable (k0_chk423 v529) := fun v529 => decidable_of_iff' _ (Iff.of_eq (k0_chk423.eq_1 v529))
theorem k0_off1036_inb : ∀ (v529 : BitVec 32) (k0_hw423 : k0_chk423 v529), ∀ a, (k0_off1036 v529) a + S1x64.size a ≤ S1000000x64.size a := fun v529 k0_hw423 => k0_hw423

def k0_off1037 (k0_t13 : Fin k0_t13_loop.trips) (c1_i32_358 : BitVec 32) : Fin 2 → Nat :=
  let c0_i32_59 : BitVec 32 := 0#32
  let c1_i32_61 : BitVec 32 := 1#32
  let arg13 : BitVec 32 := Scf.iv c0_i32_59 c1_i32_61 k0_t13
  let c16_i32_346 : BitVec 32 := 16#32
  let v504 : BitVec 32 := Scalar.muli arg13 c16_i32_346
  let c6_i32 : BitVec 32 := 6#32
  let v505 : BitVec 32 := Scalar.addi v504 c6_i32
  let c5_i32_357 : BitVec 32 := 5#32
  let v530 : BitVec 32 := Scalar.muli v505 c5_i32_357
  let v531 : BitVec 32 := Scalar.addi v530 c1_i32_358
  let c0_i32_361 : BitVec 32 := 0#32
  ![v531.toNat, 0]
def k0_off1038 (v541 : BitVec 32) : Fin 2 → Nat :=
  let c0_i32_366 : BitVec 32 := 0#32
  ![v541.toNat, 0]

def k0_chk424 (v541 : BitVec 32) : Prop :=
  (∀ a, (k0_off1038 v541) a + S1x64.size a ≤ S1000000x64.size a)
instance k0_chk424.dec : ∀ (v541 : BitVec 32), Decidable (k0_chk424 v541) := fun v541 => decidable_of_iff' _ (Iff.of_eq (k0_chk424.eq_1 v541))
theorem k0_off1038_inb : ∀ (v541 : BitVec 32) (k0_hw424 : k0_chk424 v541), ∀ a, (k0_off1038 v541) a + S1x64.size a ≤ S1000000x64.size a := fun v541 k0_hw424 => k0_hw424

def k0_off1039 (k0_t13 : Fin k0_t13_loop.trips) (c2_i32_364 : BitVec 32) : Fin 2 → Nat :=
  let c0_i32_59 : BitVec 32 := 0#32
  let c1_i32_61 : BitVec 32 := 1#32
  let arg13 : BitVec 32 := Scf.iv c0_i32_59 c1_i32_61 k0_t13
  let c16_i32_346 : BitVec 32 := 16#32
  let v504 : BitVec 32 := Scalar.muli arg13 c16_i32_346
  let c6_i32 : BitVec 32 := 6#32
  let v505 : BitVec 32 := Scalar.addi v504 c6_i32
  let c5_i32_363 : BitVec 32 := 5#32
  let v542 : BitVec 32 := Scalar.muli v505 c5_i32_363
  let v543 : BitVec 32 := Scalar.addi v542 c2_i32_364
  let c0_i32_367 : BitVec 32 := 0#32
  ![v543.toNat, 0]
def k0_off1040 (v553 : BitVec 32) : Fin 2 → Nat :=
  let c0_i32_372 : BitVec 32 := 0#32
  ![v553.toNat, 0]

def k0_chk425 (v553 : BitVec 32) : Prop :=
  (∀ a, (k0_off1040 v553) a + S1x64.size a ≤ S1000000x64.size a)
instance k0_chk425.dec : ∀ (v553 : BitVec 32), Decidable (k0_chk425 v553) := fun v553 => decidable_of_iff' _ (Iff.of_eq (k0_chk425.eq_1 v553))
theorem k0_off1040_inb : ∀ (v553 : BitVec 32) (k0_hw425 : k0_chk425 v553), ∀ a, (k0_off1040 v553) a + S1x64.size a ≤ S1000000x64.size a := fun v553 k0_hw425 => k0_hw425

def k0_off1041 (k0_t13 : Fin k0_t13_loop.trips) (c3_i32_370 : BitVec 32) : Fin 2 → Nat :=
  let c0_i32_59 : BitVec 32 := 0#32
  let c1_i32_61 : BitVec 32 := 1#32
  let arg13 : BitVec 32 := Scf.iv c0_i32_59 c1_i32_61 k0_t13
  let c16_i32_346 : BitVec 32 := 16#32
  let v504 : BitVec 32 := Scalar.muli arg13 c16_i32_346
  let c6_i32 : BitVec 32 := 6#32
  let v505 : BitVec 32 := Scalar.addi v504 c6_i32
  let c5_i32_369 : BitVec 32 := 5#32
  let v554 : BitVec 32 := Scalar.muli v505 c5_i32_369
  let v555 : BitVec 32 := Scalar.addi v554 c3_i32_370
  let c0_i32_373 : BitVec 32 := 0#32
  ![v555.toNat, 0]
def k0_off1042 (v565 : BitVec 32) : Fin 2 → Nat :=
  let c0_i32_378 : BitVec 32 := 0#32
  ![v565.toNat, 0]

def k0_chk426 (v565 : BitVec 32) : Prop :=
  (∀ a, (k0_off1042 v565) a + S1x64.size a ≤ S1000000x64.size a)
instance k0_chk426.dec : ∀ (v565 : BitVec 32), Decidable (k0_chk426 v565) := fun v565 => decidable_of_iff' _ (Iff.of_eq (k0_chk426.eq_1 v565))
theorem k0_off1042_inb : ∀ (v565 : BitVec 32) (k0_hw426 : k0_chk426 v565), ∀ a, (k0_off1042 v565) a + S1x64.size a ≤ S1000000x64.size a := fun v565 k0_hw426 => k0_hw426

def k0_off1043 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_346 : BitVec 32 := 16#32
  let v504 : BitVec 32 := Scalar.muli arg13 c16_i32_346
  let c6_i32 : BitVec 32 := 6#32
  let v505 : BitVec 32 := Scalar.addi v504 c6_i32
  let c5_i32_375 : BitVec 32 := 5#32
  let v566 : BitVec 32 := Scalar.muli v505 c5_i32_375
  let c4_i32_376 : BitVec 32 := 4#32
  let v567 : BitVec 32 := Scalar.addi v566 c4_i32_376
  let c0_i32_379 : BitVec 32 := 0#32
  ![v567.toNat, 0]
def k0_off1044 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_381 : BitVec 32 := 16#32
  let v576 : BitVec 32 := Scalar.muli arg13 c16_i32_381
  let c7_i32 : BitVec 32 := 7#32
  let v577 : BitVec 32 := Scalar.addi v576 c7_i32
  let c0_i32_382 : BitVec 32 := 0#32
  ![v577.toNat, 0]
def k0_off1045 (v579 : BitVec 32) : Fin 2 → Nat :=
  let c0_i32_383 : BitVec 32 := 0#32
  ![v579.toNat, 0]

def k0_chk427 (v579 : BitVec 32) : Prop :=
  (∀ a, (k0_off1045 v579) a + S1x64.size a ≤ S1000000x64.size a)
instance k0_chk427.dec : ∀ (v579 : BitVec 32), Decidable (k0_chk427 v579) := fun v579 => decidable_of_iff' _ (Iff.of_eq (k0_chk427.eq_1 v579))
theorem k0_off1045_inb : ∀ (v579 : BitVec 32) (k0_hw427 : k0_chk427 v579), ∀ a, (k0_off1045 v579) a + S1x64.size a ≤ S1000000x64.size a := fun v579 k0_hw427 => k0_hw427

def k0_off1046 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_381 : BitVec 32 := 16#32
  let v576 : BitVec 32 := Scalar.muli arg13 c16_i32_381
  let c7_i32 : BitVec 32 := 7#32
  let v577 : BitVec 32 := Scalar.addi v576 c7_i32
  let c0_i32_384 : BitVec 32 := 0#32
  ![v577.toNat, 0]
def k0_off1047 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_381 : BitVec 32 := 16#32
  let v576 : BitVec 32 := Scalar.muli arg13 c16_i32_381
  let c7_i32 : BitVec 32 := 7#32
  let v577 : BitVec 32 := Scalar.addi v576 c7_i32
  let c5_i32_386 : BitVec 32 := 5#32
  let v590 : BitVec 32 := Scalar.muli v577 c5_i32_386
  let c0_i32_387 : BitVec 32 := 0#32
  let v591 : BitVec 32 := Scalar.addi v590 c0_i32_387
  let c0_i32_388 : BitVec 32 := 0#32
  ![v591.toNat, 0]
def k0_off1048 (v589 : BitVec 32) : Fin 2 → Nat :=
  let c0_i32_389 : BitVec 32 := 0#32
  ![v589.toNat, 0]

def k0_chk428 (v589 : BitVec 32) : Prop :=
  (∀ a, (k0_off1048 v589) a + S1x64.size a ≤ S1000000x64.size a)
instance k0_chk428.dec : ∀ (v589 : BitVec 32), Decidable (k0_chk428 v589) := fun v589 => decidable_of_iff' _ (Iff.of_eq (k0_chk428.eq_1 v589))
theorem k0_off1048_inb : ∀ (v589 : BitVec 32) (k0_hw428 : k0_chk428 v589), ∀ a, (k0_off1048 v589) a + S1x64.size a ≤ S1000000x64.size a := fun v589 k0_hw428 => k0_hw428

def k0_off1049 (k0_t13 : Fin k0_t13_loop.trips) (c0_i32_387 : BitVec 32) : Fin 2 → Nat :=
  let c0_i32_59 : BitVec 32 := 0#32
  let c1_i32_61 : BitVec 32 := 1#32
  let arg13 : BitVec 32 := Scf.iv c0_i32_59 c1_i32_61 k0_t13
  let c16_i32_381 : BitVec 32 := 16#32
  let v576 : BitVec 32 := Scalar.muli arg13 c16_i32_381
  let c7_i32 : BitVec 32 := 7#32
  let v577 : BitVec 32 := Scalar.addi v576 c7_i32
  let c5_i32_386 : BitVec 32 := 5#32
  let v590 : BitVec 32 := Scalar.muli v577 c5_i32_386
  let v591 : BitVec 32 := Scalar.addi v590 c0_i32_387
  let c0_i32_390 : BitVec 32 := 0#32
  ![v591.toNat, 0]
def k0_off1050 (v601 : BitVec 32) : Fin 2 → Nat :=
  let c0_i32_395 : BitVec 32 := 0#32
  ![v601.toNat, 0]

def k0_chk429 (v601 : BitVec 32) : Prop :=
  (∀ a, (k0_off1050 v601) a + S1x64.size a ≤ S1000000x64.size a)
instance k0_chk429.dec : ∀ (v601 : BitVec 32), Decidable (k0_chk429 v601) := fun v601 => decidable_of_iff' _ (Iff.of_eq (k0_chk429.eq_1 v601))
theorem k0_off1050_inb : ∀ (v601 : BitVec 32) (k0_hw429 : k0_chk429 v601), ∀ a, (k0_off1050 v601) a + S1x64.size a ≤ S1000000x64.size a := fun v601 k0_hw429 => k0_hw429

def k0_off1051 (k0_t13 : Fin k0_t13_loop.trips) (c1_i32_393 : BitVec 32) : Fin 2 → Nat :=
  let c0_i32_59 : BitVec 32 := 0#32
  let c1_i32_61 : BitVec 32 := 1#32
  let arg13 : BitVec 32 := Scf.iv c0_i32_59 c1_i32_61 k0_t13
  let c16_i32_381 : BitVec 32 := 16#32
  let v576 : BitVec 32 := Scalar.muli arg13 c16_i32_381
  let c7_i32 : BitVec 32 := 7#32
  let v577 : BitVec 32 := Scalar.addi v576 c7_i32
  let c5_i32_392 : BitVec 32 := 5#32
  let v602 : BitVec 32 := Scalar.muli v577 c5_i32_392
  let v603 : BitVec 32 := Scalar.addi v602 c1_i32_393
  let c0_i32_396 : BitVec 32 := 0#32
  ![v603.toNat, 0]
def k0_off1052 (v613 : BitVec 32) : Fin 2 → Nat :=
  let c0_i32_401 : BitVec 32 := 0#32
  ![v613.toNat, 0]

def k0_chk430 (v613 : BitVec 32) : Prop :=
  (∀ a, (k0_off1052 v613) a + S1x64.size a ≤ S1000000x64.size a)
instance k0_chk430.dec : ∀ (v613 : BitVec 32), Decidable (k0_chk430 v613) := fun v613 => decidable_of_iff' _ (Iff.of_eq (k0_chk430.eq_1 v613))
theorem k0_off1052_inb : ∀ (v613 : BitVec 32) (k0_hw430 : k0_chk430 v613), ∀ a, (k0_off1052 v613) a + S1x64.size a ≤ S1000000x64.size a := fun v613 k0_hw430 => k0_hw430

def k0_off1053 (k0_t13 : Fin k0_t13_loop.trips) (c2_i32_399 : BitVec 32) : Fin 2 → Nat :=
  let c0_i32_59 : BitVec 32 := 0#32
  let c1_i32_61 : BitVec 32 := 1#32
  let arg13 : BitVec 32 := Scf.iv c0_i32_59 c1_i32_61 k0_t13
  let c16_i32_381 : BitVec 32 := 16#32
  let v576 : BitVec 32 := Scalar.muli arg13 c16_i32_381
  let c7_i32 : BitVec 32 := 7#32
  let v577 : BitVec 32 := Scalar.addi v576 c7_i32
  let c5_i32_398 : BitVec 32 := 5#32
  let v614 : BitVec 32 := Scalar.muli v577 c5_i32_398
  let v615 : BitVec 32 := Scalar.addi v614 c2_i32_399
  let c0_i32_402 : BitVec 32 := 0#32
  ![v615.toNat, 0]
def k0_off1054 (v625 : BitVec 32) : Fin 2 → Nat :=
  let c0_i32_407 : BitVec 32 := 0#32
  ![v625.toNat, 0]

def k0_chk431 (v625 : BitVec 32) : Prop :=
  (∀ a, (k0_off1054 v625) a + S1x64.size a ≤ S1000000x64.size a)
instance k0_chk431.dec : ∀ (v625 : BitVec 32), Decidable (k0_chk431 v625) := fun v625 => decidable_of_iff' _ (Iff.of_eq (k0_chk431.eq_1 v625))
theorem k0_off1054_inb : ∀ (v625 : BitVec 32) (k0_hw431 : k0_chk431 v625), ∀ a, (k0_off1054 v625) a + S1x64.size a ≤ S1000000x64.size a := fun v625 k0_hw431 => k0_hw431

def k0_off1055 (k0_t13 : Fin k0_t13_loop.trips) (c3_i32_405 : BitVec 32) : Fin 2 → Nat :=
  let c0_i32_59 : BitVec 32 := 0#32
  let c1_i32_61 : BitVec 32 := 1#32
  let arg13 : BitVec 32 := Scf.iv c0_i32_59 c1_i32_61 k0_t13
  let c16_i32_381 : BitVec 32 := 16#32
  let v576 : BitVec 32 := Scalar.muli arg13 c16_i32_381
  let c7_i32 : BitVec 32 := 7#32
  let v577 : BitVec 32 := Scalar.addi v576 c7_i32
  let c5_i32_404 : BitVec 32 := 5#32
  let v626 : BitVec 32 := Scalar.muli v577 c5_i32_404
  let v627 : BitVec 32 := Scalar.addi v626 c3_i32_405
  let c0_i32_408 : BitVec 32 := 0#32
  ![v627.toNat, 0]
def k0_off1056 (v637 : BitVec 32) : Fin 2 → Nat :=
  let c0_i32_413 : BitVec 32 := 0#32
  ![v637.toNat, 0]

def k0_chk432 (v637 : BitVec 32) : Prop :=
  (∀ a, (k0_off1056 v637) a + S1x64.size a ≤ S1000000x64.size a)
instance k0_chk432.dec : ∀ (v637 : BitVec 32), Decidable (k0_chk432 v637) := fun v637 => decidable_of_iff' _ (Iff.of_eq (k0_chk432.eq_1 v637))
theorem k0_off1056_inb : ∀ (v637 : BitVec 32) (k0_hw432 : k0_chk432 v637), ∀ a, (k0_off1056 v637) a + S1x64.size a ≤ S1000000x64.size a := fun v637 k0_hw432 => k0_hw432

def k0_off1057 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_381 : BitVec 32 := 16#32
  let v576 : BitVec 32 := Scalar.muli arg13 c16_i32_381
  let c7_i32 : BitVec 32 := 7#32
  let v577 : BitVec 32 := Scalar.addi v576 c7_i32
  let c5_i32_410 : BitVec 32 := 5#32
  let v638 : BitVec 32 := Scalar.muli v577 c5_i32_410
  let c4_i32_411 : BitVec 32 := 4#32
  let v639 : BitVec 32 := Scalar.addi v638 c4_i32_411
  let c0_i32_414 : BitVec 32 := 0#32
  ![v639.toNat, 0]
def k0_off1058 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_416 : BitVec 32 := 16#32
  let v648 : BitVec 32 := Scalar.muli arg13 c16_i32_416
  let c8_i32 : BitVec 32 := 8#32
  let v649 : BitVec 32 := Scalar.addi v648 c8_i32
  let c0_i32_417 : BitVec 32 := 0#32
  ![v649.toNat, 0]
def k0_off1059 (v651 : BitVec 32) : Fin 2 → Nat :=
  let c0_i32_418 : BitVec 32 := 0#32
  ![v651.toNat, 0]

def k0_chk433 (v651 : BitVec 32) : Prop :=
  (∀ a, (k0_off1059 v651) a + S1x64.size a ≤ S1000000x64.size a)
instance k0_chk433.dec : ∀ (v651 : BitVec 32), Decidable (k0_chk433 v651) := fun v651 => decidable_of_iff' _ (Iff.of_eq (k0_chk433.eq_1 v651))
theorem k0_off1059_inb : ∀ (v651 : BitVec 32) (k0_hw433 : k0_chk433 v651), ∀ a, (k0_off1059 v651) a + S1x64.size a ≤ S1000000x64.size a := fun v651 k0_hw433 => k0_hw433

def k0_off1060 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_416 : BitVec 32 := 16#32
  let v648 : BitVec 32 := Scalar.muli arg13 c16_i32_416
  let c8_i32 : BitVec 32 := 8#32
  let v649 : BitVec 32 := Scalar.addi v648 c8_i32
  let c0_i32_419 : BitVec 32 := 0#32
  ![v649.toNat, 0]
def k0_off1061 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_416 : BitVec 32 := 16#32
  let v648 : BitVec 32 := Scalar.muli arg13 c16_i32_416
  let c8_i32 : BitVec 32 := 8#32
  let v649 : BitVec 32 := Scalar.addi v648 c8_i32
  let c5_i32_421 : BitVec 32 := 5#32
  let v662 : BitVec 32 := Scalar.muli v649 c5_i32_421
  let c0_i32_422 : BitVec 32 := 0#32
  let v663 : BitVec 32 := Scalar.addi v662 c0_i32_422
  let c0_i32_423 : BitVec 32 := 0#32
  ![v663.toNat, 0]
def k0_off1062 (v661 : BitVec 32) : Fin 2 → Nat :=
  let c0_i32_424 : BitVec 32 := 0#32
  ![v661.toNat, 0]

def k0_chk434 (v661 : BitVec 32) : Prop :=
  (∀ a, (k0_off1062 v661) a + S1x64.size a ≤ S1000000x64.size a)
instance k0_chk434.dec : ∀ (v661 : BitVec 32), Decidable (k0_chk434 v661) := fun v661 => decidable_of_iff' _ (Iff.of_eq (k0_chk434.eq_1 v661))
theorem k0_off1062_inb : ∀ (v661 : BitVec 32) (k0_hw434 : k0_chk434 v661), ∀ a, (k0_off1062 v661) a + S1x64.size a ≤ S1000000x64.size a := fun v661 k0_hw434 => k0_hw434

def k0_off1063 (k0_t13 : Fin k0_t13_loop.trips) (c0_i32_422 : BitVec 32) : Fin 2 → Nat :=
  let c0_i32_59 : BitVec 32 := 0#32
  let c1_i32_61 : BitVec 32 := 1#32
  let arg13 : BitVec 32 := Scf.iv c0_i32_59 c1_i32_61 k0_t13
  let c16_i32_416 : BitVec 32 := 16#32
  let v648 : BitVec 32 := Scalar.muli arg13 c16_i32_416
  let c8_i32 : BitVec 32 := 8#32
  let v649 : BitVec 32 := Scalar.addi v648 c8_i32
  let c5_i32_421 : BitVec 32 := 5#32
  let v662 : BitVec 32 := Scalar.muli v649 c5_i32_421
  let v663 : BitVec 32 := Scalar.addi v662 c0_i32_422
  let c0_i32_425 : BitVec 32 := 0#32
  ![v663.toNat, 0]
def k0_off1064 (v673 : BitVec 32) : Fin 2 → Nat :=
  let c0_i32_430 : BitVec 32 := 0#32
  ![v673.toNat, 0]

def k0_chk435 (v673 : BitVec 32) : Prop :=
  (∀ a, (k0_off1064 v673) a + S1x64.size a ≤ S1000000x64.size a)
instance k0_chk435.dec : ∀ (v673 : BitVec 32), Decidable (k0_chk435 v673) := fun v673 => decidable_of_iff' _ (Iff.of_eq (k0_chk435.eq_1 v673))
theorem k0_off1064_inb : ∀ (v673 : BitVec 32) (k0_hw435 : k0_chk435 v673), ∀ a, (k0_off1064 v673) a + S1x64.size a ≤ S1000000x64.size a := fun v673 k0_hw435 => k0_hw435

def k0_off1065 (k0_t13 : Fin k0_t13_loop.trips) (c1_i32_428 : BitVec 32) : Fin 2 → Nat :=
  let c0_i32_59 : BitVec 32 := 0#32
  let c1_i32_61 : BitVec 32 := 1#32
  let arg13 : BitVec 32 := Scf.iv c0_i32_59 c1_i32_61 k0_t13
  let c16_i32_416 : BitVec 32 := 16#32
  let v648 : BitVec 32 := Scalar.muli arg13 c16_i32_416
  let c8_i32 : BitVec 32 := 8#32
  let v649 : BitVec 32 := Scalar.addi v648 c8_i32
  let c5_i32_427 : BitVec 32 := 5#32
  let v674 : BitVec 32 := Scalar.muli v649 c5_i32_427
  let v675 : BitVec 32 := Scalar.addi v674 c1_i32_428
  let c0_i32_431 : BitVec 32 := 0#32
  ![v675.toNat, 0]
def k0_off1066 (v685 : BitVec 32) : Fin 2 → Nat :=
  let c0_i32_436 : BitVec 32 := 0#32
  ![v685.toNat, 0]

def k0_chk436 (v685 : BitVec 32) : Prop :=
  (∀ a, (k0_off1066 v685) a + S1x64.size a ≤ S1000000x64.size a)
instance k0_chk436.dec : ∀ (v685 : BitVec 32), Decidable (k0_chk436 v685) := fun v685 => decidable_of_iff' _ (Iff.of_eq (k0_chk436.eq_1 v685))
theorem k0_off1066_inb : ∀ (v685 : BitVec 32) (k0_hw436 : k0_chk436 v685), ∀ a, (k0_off1066 v685) a + S1x64.size a ≤ S1000000x64.size a := fun v685 k0_hw436 => k0_hw436

def k0_off1067 (k0_t13 : Fin k0_t13_loop.trips) (c2_i32_434 : BitVec 32) : Fin 2 → Nat :=
  let c0_i32_59 : BitVec 32 := 0#32
  let c1_i32_61 : BitVec 32 := 1#32
  let arg13 : BitVec 32 := Scf.iv c0_i32_59 c1_i32_61 k0_t13
  let c16_i32_416 : BitVec 32 := 16#32
  let v648 : BitVec 32 := Scalar.muli arg13 c16_i32_416
  let c8_i32 : BitVec 32 := 8#32
  let v649 : BitVec 32 := Scalar.addi v648 c8_i32
  let c5_i32_433 : BitVec 32 := 5#32
  let v686 : BitVec 32 := Scalar.muli v649 c5_i32_433
  let v687 : BitVec 32 := Scalar.addi v686 c2_i32_434
  let c0_i32_437 : BitVec 32 := 0#32
  ![v687.toNat, 0]
def k0_off1068 (v697 : BitVec 32) : Fin 2 → Nat :=
  let c0_i32_442 : BitVec 32 := 0#32
  ![v697.toNat, 0]

def k0_chk437 (v697 : BitVec 32) : Prop :=
  (∀ a, (k0_off1068 v697) a + S1x64.size a ≤ S1000000x64.size a)
instance k0_chk437.dec : ∀ (v697 : BitVec 32), Decidable (k0_chk437 v697) := fun v697 => decidable_of_iff' _ (Iff.of_eq (k0_chk437.eq_1 v697))
theorem k0_off1068_inb : ∀ (v697 : BitVec 32) (k0_hw437 : k0_chk437 v697), ∀ a, (k0_off1068 v697) a + S1x64.size a ≤ S1000000x64.size a := fun v697 k0_hw437 => k0_hw437

def k0_off1069 (k0_t13 : Fin k0_t13_loop.trips) (c3_i32_440 : BitVec 32) : Fin 2 → Nat :=
  let c0_i32_59 : BitVec 32 := 0#32
  let c1_i32_61 : BitVec 32 := 1#32
  let arg13 : BitVec 32 := Scf.iv c0_i32_59 c1_i32_61 k0_t13
  let c16_i32_416 : BitVec 32 := 16#32
  let v648 : BitVec 32 := Scalar.muli arg13 c16_i32_416
  let c8_i32 : BitVec 32 := 8#32
  let v649 : BitVec 32 := Scalar.addi v648 c8_i32
  let c5_i32_439 : BitVec 32 := 5#32
  let v698 : BitVec 32 := Scalar.muli v649 c5_i32_439
  let v699 : BitVec 32 := Scalar.addi v698 c3_i32_440
  let c0_i32_443 : BitVec 32 := 0#32
  ![v699.toNat, 0]
def k0_off1070 (v709 : BitVec 32) : Fin 2 → Nat :=
  let c0_i32_448 : BitVec 32 := 0#32
  ![v709.toNat, 0]

def k0_chk438 (v709 : BitVec 32) : Prop :=
  (∀ a, (k0_off1070 v709) a + S1x64.size a ≤ S1000000x64.size a)
instance k0_chk438.dec : ∀ (v709 : BitVec 32), Decidable (k0_chk438 v709) := fun v709 => decidable_of_iff' _ (Iff.of_eq (k0_chk438.eq_1 v709))
theorem k0_off1070_inb : ∀ (v709 : BitVec 32) (k0_hw438 : k0_chk438 v709), ∀ a, (k0_off1070 v709) a + S1x64.size a ≤ S1000000x64.size a := fun v709 k0_hw438 => k0_hw438

def k0_off1071 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_416 : BitVec 32 := 16#32
  let v648 : BitVec 32 := Scalar.muli arg13 c16_i32_416
  let c8_i32 : BitVec 32 := 8#32
  let v649 : BitVec 32 := Scalar.addi v648 c8_i32
  let c5_i32_445 : BitVec 32 := 5#32
  let v710 : BitVec 32 := Scalar.muli v649 c5_i32_445
  let c4_i32_446 : BitVec 32 := 4#32
  let v711 : BitVec 32 := Scalar.addi v710 c4_i32_446
  let c0_i32_449 : BitVec 32 := 0#32
  ![v711.toNat, 0]
def k0_off1072 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_451 : BitVec 32 := 16#32
  let v720 : BitVec 32 := Scalar.muli arg13 c16_i32_451
  let c9_i32 : BitVec 32 := 9#32
  let v721 : BitVec 32 := Scalar.addi v720 c9_i32
  let c0_i32_452 : BitVec 32 := 0#32
  ![v721.toNat, 0]
def k0_off1073 (v723 : BitVec 32) : Fin 2 → Nat :=
  let c0_i32_453 : BitVec 32 := 0#32
  ![v723.toNat, 0]

def k0_chk439 (v723 : BitVec 32) : Prop :=
  (∀ a, (k0_off1073 v723) a + S1x64.size a ≤ S1000000x64.size a)
instance k0_chk439.dec : ∀ (v723 : BitVec 32), Decidable (k0_chk439 v723) := fun v723 => decidable_of_iff' _ (Iff.of_eq (k0_chk439.eq_1 v723))
theorem k0_off1073_inb : ∀ (v723 : BitVec 32) (k0_hw439 : k0_chk439 v723), ∀ a, (k0_off1073 v723) a + S1x64.size a ≤ S1000000x64.size a := fun v723 k0_hw439 => k0_hw439

def k0_off1074 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_451 : BitVec 32 := 16#32
  let v720 : BitVec 32 := Scalar.muli arg13 c16_i32_451
  let c9_i32 : BitVec 32 := 9#32
  let v721 : BitVec 32 := Scalar.addi v720 c9_i32
  let c0_i32_454 : BitVec 32 := 0#32
  ![v721.toNat, 0]
def k0_off1075 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_451 : BitVec 32 := 16#32
  let v720 : BitVec 32 := Scalar.muli arg13 c16_i32_451
  let c9_i32 : BitVec 32 := 9#32
  let v721 : BitVec 32 := Scalar.addi v720 c9_i32
  let c5_i32_456 : BitVec 32 := 5#32
  let v734 : BitVec 32 := Scalar.muli v721 c5_i32_456
  let c0_i32_457 : BitVec 32 := 0#32
  let v735 : BitVec 32 := Scalar.addi v734 c0_i32_457
  let c0_i32_458 : BitVec 32 := 0#32
  ![v735.toNat, 0]
def k0_off1076 (v733 : BitVec 32) : Fin 2 → Nat :=
  let c0_i32_459 : BitVec 32 := 0#32
  ![v733.toNat, 0]

def k0_chk440 (v733 : BitVec 32) : Prop :=
  (∀ a, (k0_off1076 v733) a + S1x64.size a ≤ S1000000x64.size a)
instance k0_chk440.dec : ∀ (v733 : BitVec 32), Decidable (k0_chk440 v733) := fun v733 => decidable_of_iff' _ (Iff.of_eq (k0_chk440.eq_1 v733))
theorem k0_off1076_inb : ∀ (v733 : BitVec 32) (k0_hw440 : k0_chk440 v733), ∀ a, (k0_off1076 v733) a + S1x64.size a ≤ S1000000x64.size a := fun v733 k0_hw440 => k0_hw440

def k0_off1077 (k0_t13 : Fin k0_t13_loop.trips) (c0_i32_457 : BitVec 32) : Fin 2 → Nat :=
  let c0_i32_59 : BitVec 32 := 0#32
  let c1_i32_61 : BitVec 32 := 1#32
  let arg13 : BitVec 32 := Scf.iv c0_i32_59 c1_i32_61 k0_t13
  let c16_i32_451 : BitVec 32 := 16#32
  let v720 : BitVec 32 := Scalar.muli arg13 c16_i32_451
  let c9_i32 : BitVec 32 := 9#32
  let v721 : BitVec 32 := Scalar.addi v720 c9_i32
  let c5_i32_456 : BitVec 32 := 5#32
  let v734 : BitVec 32 := Scalar.muli v721 c5_i32_456
  let v735 : BitVec 32 := Scalar.addi v734 c0_i32_457
  let c0_i32_460 : BitVec 32 := 0#32
  ![v735.toNat, 0]
def k0_off1078 (v745 : BitVec 32) : Fin 2 → Nat :=
  let c0_i32_465 : BitVec 32 := 0#32
  ![v745.toNat, 0]

def k0_chk441 (v745 : BitVec 32) : Prop :=
  (∀ a, (k0_off1078 v745) a + S1x64.size a ≤ S1000000x64.size a)
instance k0_chk441.dec : ∀ (v745 : BitVec 32), Decidable (k0_chk441 v745) := fun v745 => decidable_of_iff' _ (Iff.of_eq (k0_chk441.eq_1 v745))
theorem k0_off1078_inb : ∀ (v745 : BitVec 32) (k0_hw441 : k0_chk441 v745), ∀ a, (k0_off1078 v745) a + S1x64.size a ≤ S1000000x64.size a := fun v745 k0_hw441 => k0_hw441

def k0_off1079 (k0_t13 : Fin k0_t13_loop.trips) (c1_i32_463 : BitVec 32) : Fin 2 → Nat :=
  let c0_i32_59 : BitVec 32 := 0#32
  let c1_i32_61 : BitVec 32 := 1#32
  let arg13 : BitVec 32 := Scf.iv c0_i32_59 c1_i32_61 k0_t13
  let c16_i32_451 : BitVec 32 := 16#32
  let v720 : BitVec 32 := Scalar.muli arg13 c16_i32_451
  let c9_i32 : BitVec 32 := 9#32
  let v721 : BitVec 32 := Scalar.addi v720 c9_i32
  let c5_i32_462 : BitVec 32 := 5#32
  let v746 : BitVec 32 := Scalar.muli v721 c5_i32_462
  let v747 : BitVec 32 := Scalar.addi v746 c1_i32_463
  let c0_i32_466 : BitVec 32 := 0#32
  ![v747.toNat, 0]
def k0_off1080 (v757 : BitVec 32) : Fin 2 → Nat :=
  let c0_i32_471 : BitVec 32 := 0#32
  ![v757.toNat, 0]

def k0_chk442 (v757 : BitVec 32) : Prop :=
  (∀ a, (k0_off1080 v757) a + S1x64.size a ≤ S1000000x64.size a)
instance k0_chk442.dec : ∀ (v757 : BitVec 32), Decidable (k0_chk442 v757) := fun v757 => decidable_of_iff' _ (Iff.of_eq (k0_chk442.eq_1 v757))
theorem k0_off1080_inb : ∀ (v757 : BitVec 32) (k0_hw442 : k0_chk442 v757), ∀ a, (k0_off1080 v757) a + S1x64.size a ≤ S1000000x64.size a := fun v757 k0_hw442 => k0_hw442

def k0_off1081 (k0_t13 : Fin k0_t13_loop.trips) (c2_i32_469 : BitVec 32) : Fin 2 → Nat :=
  let c0_i32_59 : BitVec 32 := 0#32
  let c1_i32_61 : BitVec 32 := 1#32
  let arg13 : BitVec 32 := Scf.iv c0_i32_59 c1_i32_61 k0_t13
  let c16_i32_451 : BitVec 32 := 16#32
  let v720 : BitVec 32 := Scalar.muli arg13 c16_i32_451
  let c9_i32 : BitVec 32 := 9#32
  let v721 : BitVec 32 := Scalar.addi v720 c9_i32
  let c5_i32_468 : BitVec 32 := 5#32
  let v758 : BitVec 32 := Scalar.muli v721 c5_i32_468
  let v759 : BitVec 32 := Scalar.addi v758 c2_i32_469
  let c0_i32_472 : BitVec 32 := 0#32
  ![v759.toNat, 0]
def k0_off1082 (v769 : BitVec 32) : Fin 2 → Nat :=
  let c0_i32_477 : BitVec 32 := 0#32
  ![v769.toNat, 0]

def k0_chk443 (v769 : BitVec 32) : Prop :=
  (∀ a, (k0_off1082 v769) a + S1x64.size a ≤ S1000000x64.size a)
instance k0_chk443.dec : ∀ (v769 : BitVec 32), Decidable (k0_chk443 v769) := fun v769 => decidable_of_iff' _ (Iff.of_eq (k0_chk443.eq_1 v769))
theorem k0_off1082_inb : ∀ (v769 : BitVec 32) (k0_hw443 : k0_chk443 v769), ∀ a, (k0_off1082 v769) a + S1x64.size a ≤ S1000000x64.size a := fun v769 k0_hw443 => k0_hw443

def k0_off1083 (k0_t13 : Fin k0_t13_loop.trips) (c3_i32_475 : BitVec 32) : Fin 2 → Nat :=
  let c0_i32_59 : BitVec 32 := 0#32
  let c1_i32_61 : BitVec 32 := 1#32
  let arg13 : BitVec 32 := Scf.iv c0_i32_59 c1_i32_61 k0_t13
  let c16_i32_451 : BitVec 32 := 16#32
  let v720 : BitVec 32 := Scalar.muli arg13 c16_i32_451
  let c9_i32 : BitVec 32 := 9#32
  let v721 : BitVec 32 := Scalar.addi v720 c9_i32
  let c5_i32_474 : BitVec 32 := 5#32
  let v770 : BitVec 32 := Scalar.muli v721 c5_i32_474
  let v771 : BitVec 32 := Scalar.addi v770 c3_i32_475
  let c0_i32_478 : BitVec 32 := 0#32
  ![v771.toNat, 0]
def k0_off1084 (v781 : BitVec 32) : Fin 2 → Nat :=
  let c0_i32_483 : BitVec 32 := 0#32
  ![v781.toNat, 0]

def k0_chk444 (v781 : BitVec 32) : Prop :=
  (∀ a, (k0_off1084 v781) a + S1x64.size a ≤ S1000000x64.size a)
instance k0_chk444.dec : ∀ (v781 : BitVec 32), Decidable (k0_chk444 v781) := fun v781 => decidable_of_iff' _ (Iff.of_eq (k0_chk444.eq_1 v781))
theorem k0_off1084_inb : ∀ (v781 : BitVec 32) (k0_hw444 : k0_chk444 v781), ∀ a, (k0_off1084 v781) a + S1x64.size a ≤ S1000000x64.size a := fun v781 k0_hw444 => k0_hw444

def k0_off1085 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_451 : BitVec 32 := 16#32
  let v720 : BitVec 32 := Scalar.muli arg13 c16_i32_451
  let c9_i32 : BitVec 32 := 9#32
  let v721 : BitVec 32 := Scalar.addi v720 c9_i32
  let c5_i32_480 : BitVec 32 := 5#32
  let v782 : BitVec 32 := Scalar.muli v721 c5_i32_480
  let c4_i32_481 : BitVec 32 := 4#32
  let v783 : BitVec 32 := Scalar.addi v782 c4_i32_481
  let c0_i32_484 : BitVec 32 := 0#32
  ![v783.toNat, 0]
def k0_off1086 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_486 : BitVec 32 := 16#32
  let v792 : BitVec 32 := Scalar.muli arg13 c16_i32_486
  let c10_i32 : BitVec 32 := 10#32
  let v793 : BitVec 32 := Scalar.addi v792 c10_i32
  let c0_i32_487 : BitVec 32 := 0#32
  ![v793.toNat, 0]
def k0_off1087 (v795 : BitVec 32) : Fin 2 → Nat :=
  let c0_i32_488 : BitVec 32 := 0#32
  ![v795.toNat, 0]

def k0_chk445 (v795 : BitVec 32) : Prop :=
  (∀ a, (k0_off1087 v795) a + S1x64.size a ≤ S1000000x64.size a)
instance k0_chk445.dec : ∀ (v795 : BitVec 32), Decidable (k0_chk445 v795) := fun v795 => decidable_of_iff' _ (Iff.of_eq (k0_chk445.eq_1 v795))
theorem k0_off1087_inb : ∀ (v795 : BitVec 32) (k0_hw445 : k0_chk445 v795), ∀ a, (k0_off1087 v795) a + S1x64.size a ≤ S1000000x64.size a := fun v795 k0_hw445 => k0_hw445

def k0_off1088 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_486 : BitVec 32 := 16#32
  let v792 : BitVec 32 := Scalar.muli arg13 c16_i32_486
  let c10_i32 : BitVec 32 := 10#32
  let v793 : BitVec 32 := Scalar.addi v792 c10_i32
  let c0_i32_489 : BitVec 32 := 0#32
  ![v793.toNat, 0]
def k0_off1089 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_486 : BitVec 32 := 16#32
  let v792 : BitVec 32 := Scalar.muli arg13 c16_i32_486
  let c10_i32 : BitVec 32 := 10#32
  let v793 : BitVec 32 := Scalar.addi v792 c10_i32
  let c5_i32_491 : BitVec 32 := 5#32
  let v806 : BitVec 32 := Scalar.muli v793 c5_i32_491
  let c0_i32_492 : BitVec 32 := 0#32
  let v807 : BitVec 32 := Scalar.addi v806 c0_i32_492
  let c0_i32_493 : BitVec 32 := 0#32
  ![v807.toNat, 0]
def k0_off1090 (v805 : BitVec 32) : Fin 2 → Nat :=
  let c0_i32_494 : BitVec 32 := 0#32
  ![v805.toNat, 0]

def k0_chk446 (v805 : BitVec 32) : Prop :=
  (∀ a, (k0_off1090 v805) a + S1x64.size a ≤ S1000000x64.size a)
instance k0_chk446.dec : ∀ (v805 : BitVec 32), Decidable (k0_chk446 v805) := fun v805 => decidable_of_iff' _ (Iff.of_eq (k0_chk446.eq_1 v805))
theorem k0_off1090_inb : ∀ (v805 : BitVec 32) (k0_hw446 : k0_chk446 v805), ∀ a, (k0_off1090 v805) a + S1x64.size a ≤ S1000000x64.size a := fun v805 k0_hw446 => k0_hw446

def k0_off1091 (k0_t13 : Fin k0_t13_loop.trips) (c0_i32_492 : BitVec 32) : Fin 2 → Nat :=
  let c0_i32_59 : BitVec 32 := 0#32
  let c1_i32_61 : BitVec 32 := 1#32
  let arg13 : BitVec 32 := Scf.iv c0_i32_59 c1_i32_61 k0_t13
  let c16_i32_486 : BitVec 32 := 16#32
  let v792 : BitVec 32 := Scalar.muli arg13 c16_i32_486
  let c10_i32 : BitVec 32 := 10#32
  let v793 : BitVec 32 := Scalar.addi v792 c10_i32
  let c5_i32_491 : BitVec 32 := 5#32
  let v806 : BitVec 32 := Scalar.muli v793 c5_i32_491
  let v807 : BitVec 32 := Scalar.addi v806 c0_i32_492
  let c0_i32_495 : BitVec 32 := 0#32
  ![v807.toNat, 0]
def k0_off1092 (v817 : BitVec 32) : Fin 2 → Nat :=
  let c0_i32_500 : BitVec 32 := 0#32
  ![v817.toNat, 0]

def k0_chk447 (v817 : BitVec 32) : Prop :=
  (∀ a, (k0_off1092 v817) a + S1x64.size a ≤ S1000000x64.size a)
instance k0_chk447.dec : ∀ (v817 : BitVec 32), Decidable (k0_chk447 v817) := fun v817 => decidable_of_iff' _ (Iff.of_eq (k0_chk447.eq_1 v817))
theorem k0_off1092_inb : ∀ (v817 : BitVec 32) (k0_hw447 : k0_chk447 v817), ∀ a, (k0_off1092 v817) a + S1x64.size a ≤ S1000000x64.size a := fun v817 k0_hw447 => k0_hw447

def k0_off1093 (k0_t13 : Fin k0_t13_loop.trips) (c1_i32_498 : BitVec 32) : Fin 2 → Nat :=
  let c0_i32_59 : BitVec 32 := 0#32
  let c1_i32_61 : BitVec 32 := 1#32
  let arg13 : BitVec 32 := Scf.iv c0_i32_59 c1_i32_61 k0_t13
  let c16_i32_486 : BitVec 32 := 16#32
  let v792 : BitVec 32 := Scalar.muli arg13 c16_i32_486
  let c10_i32 : BitVec 32 := 10#32
  let v793 : BitVec 32 := Scalar.addi v792 c10_i32
  let c5_i32_497 : BitVec 32 := 5#32
  let v818 : BitVec 32 := Scalar.muli v793 c5_i32_497
  let v819 : BitVec 32 := Scalar.addi v818 c1_i32_498
  let c0_i32_501 : BitVec 32 := 0#32
  ![v819.toNat, 0]
def k0_off1094 (v829 : BitVec 32) : Fin 2 → Nat :=
  let c0_i32_506 : BitVec 32 := 0#32
  ![v829.toNat, 0]

def k0_chk448 (v829 : BitVec 32) : Prop :=
  (∀ a, (k0_off1094 v829) a + S1x64.size a ≤ S1000000x64.size a)
instance k0_chk448.dec : ∀ (v829 : BitVec 32), Decidable (k0_chk448 v829) := fun v829 => decidable_of_iff' _ (Iff.of_eq (k0_chk448.eq_1 v829))
theorem k0_off1094_inb : ∀ (v829 : BitVec 32) (k0_hw448 : k0_chk448 v829), ∀ a, (k0_off1094 v829) a + S1x64.size a ≤ S1000000x64.size a := fun v829 k0_hw448 => k0_hw448

def k0_off1095 (k0_t13 : Fin k0_t13_loop.trips) (c2_i32_504 : BitVec 32) : Fin 2 → Nat :=
  let c0_i32_59 : BitVec 32 := 0#32
  let c1_i32_61 : BitVec 32 := 1#32
  let arg13 : BitVec 32 := Scf.iv c0_i32_59 c1_i32_61 k0_t13
  let c16_i32_486 : BitVec 32 := 16#32
  let v792 : BitVec 32 := Scalar.muli arg13 c16_i32_486
  let c10_i32 : BitVec 32 := 10#32
  let v793 : BitVec 32 := Scalar.addi v792 c10_i32
  let c5_i32_503 : BitVec 32 := 5#32
  let v830 : BitVec 32 := Scalar.muli v793 c5_i32_503
  let v831 : BitVec 32 := Scalar.addi v830 c2_i32_504
  let c0_i32_507 : BitVec 32 := 0#32
  ![v831.toNat, 0]
def k0_off1096 (v841 : BitVec 32) : Fin 2 → Nat :=
  let c0_i32_512 : BitVec 32 := 0#32
  ![v841.toNat, 0]

def k0_chk449 (v841 : BitVec 32) : Prop :=
  (∀ a, (k0_off1096 v841) a + S1x64.size a ≤ S1000000x64.size a)
instance k0_chk449.dec : ∀ (v841 : BitVec 32), Decidable (k0_chk449 v841) := fun v841 => decidable_of_iff' _ (Iff.of_eq (k0_chk449.eq_1 v841))
theorem k0_off1096_inb : ∀ (v841 : BitVec 32) (k0_hw449 : k0_chk449 v841), ∀ a, (k0_off1096 v841) a + S1x64.size a ≤ S1000000x64.size a := fun v841 k0_hw449 => k0_hw449

def k0_off1097 (k0_t13 : Fin k0_t13_loop.trips) (c3_i32_510 : BitVec 32) : Fin 2 → Nat :=
  let c0_i32_59 : BitVec 32 := 0#32
  let c1_i32_61 : BitVec 32 := 1#32
  let arg13 : BitVec 32 := Scf.iv c0_i32_59 c1_i32_61 k0_t13
  let c16_i32_486 : BitVec 32 := 16#32
  let v792 : BitVec 32 := Scalar.muli arg13 c16_i32_486
  let c10_i32 : BitVec 32 := 10#32
  let v793 : BitVec 32 := Scalar.addi v792 c10_i32
  let c5_i32_509 : BitVec 32 := 5#32
  let v842 : BitVec 32 := Scalar.muli v793 c5_i32_509
  let v843 : BitVec 32 := Scalar.addi v842 c3_i32_510
  let c0_i32_513 : BitVec 32 := 0#32
  ![v843.toNat, 0]
def k0_off1098 (v853 : BitVec 32) : Fin 2 → Nat :=
  let c0_i32_518 : BitVec 32 := 0#32
  ![v853.toNat, 0]

def k0_chk450 (v853 : BitVec 32) : Prop :=
  (∀ a, (k0_off1098 v853) a + S1x64.size a ≤ S1000000x64.size a)
instance k0_chk450.dec : ∀ (v853 : BitVec 32), Decidable (k0_chk450 v853) := fun v853 => decidable_of_iff' _ (Iff.of_eq (k0_chk450.eq_1 v853))
theorem k0_off1098_inb : ∀ (v853 : BitVec 32) (k0_hw450 : k0_chk450 v853), ∀ a, (k0_off1098 v853) a + S1x64.size a ≤ S1000000x64.size a := fun v853 k0_hw450 => k0_hw450

def k0_off1099 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_486 : BitVec 32 := 16#32
  let v792 : BitVec 32 := Scalar.muli arg13 c16_i32_486
  let c10_i32 : BitVec 32 := 10#32
  let v793 : BitVec 32 := Scalar.addi v792 c10_i32
  let c5_i32_515 : BitVec 32 := 5#32
  let v854 : BitVec 32 := Scalar.muli v793 c5_i32_515
  let c4_i32_516 : BitVec 32 := 4#32
  let v855 : BitVec 32 := Scalar.addi v854 c4_i32_516
  let c0_i32_519 : BitVec 32 := 0#32
  ![v855.toNat, 0]
def k0_off1100 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_521 : BitVec 32 := 16#32
  let v864 : BitVec 32 := Scalar.muli arg13 c16_i32_521
  let c11_i32 : BitVec 32 := 11#32
  let v865 : BitVec 32 := Scalar.addi v864 c11_i32
  let c0_i32_522 : BitVec 32 := 0#32
  ![v865.toNat, 0]
def k0_off1101 (v867 : BitVec 32) : Fin 2 → Nat :=
  let c0_i32_523 : BitVec 32 := 0#32
  ![v867.toNat, 0]

def k0_chk451 (v867 : BitVec 32) : Prop :=
  (∀ a, (k0_off1101 v867) a + S1x64.size a ≤ S1000000x64.size a)
instance k0_chk451.dec : ∀ (v867 : BitVec 32), Decidable (k0_chk451 v867) := fun v867 => decidable_of_iff' _ (Iff.of_eq (k0_chk451.eq_1 v867))
theorem k0_off1101_inb : ∀ (v867 : BitVec 32) (k0_hw451 : k0_chk451 v867), ∀ a, (k0_off1101 v867) a + S1x64.size a ≤ S1000000x64.size a := fun v867 k0_hw451 => k0_hw451

def k0_off1102 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_521 : BitVec 32 := 16#32
  let v864 : BitVec 32 := Scalar.muli arg13 c16_i32_521
  let c11_i32 : BitVec 32 := 11#32
  let v865 : BitVec 32 := Scalar.addi v864 c11_i32
  let c0_i32_524 : BitVec 32 := 0#32
  ![v865.toNat, 0]
def k0_off1103 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_521 : BitVec 32 := 16#32
  let v864 : BitVec 32 := Scalar.muli arg13 c16_i32_521
  let c11_i32 : BitVec 32 := 11#32
  let v865 : BitVec 32 := Scalar.addi v864 c11_i32
  let c5_i32_526 : BitVec 32 := 5#32
  let v878 : BitVec 32 := Scalar.muli v865 c5_i32_526
  let c0_i32_527 : BitVec 32 := 0#32
  let v879 : BitVec 32 := Scalar.addi v878 c0_i32_527
  let c0_i32_528 : BitVec 32 := 0#32
  ![v879.toNat, 0]
def k0_off1104 (v877 : BitVec 32) : Fin 2 → Nat :=
  let c0_i32_529 : BitVec 32 := 0#32
  ![v877.toNat, 0]

def k0_chk452 (v877 : BitVec 32) : Prop :=
  (∀ a, (k0_off1104 v877) a + S1x64.size a ≤ S1000000x64.size a)
instance k0_chk452.dec : ∀ (v877 : BitVec 32), Decidable (k0_chk452 v877) := fun v877 => decidable_of_iff' _ (Iff.of_eq (k0_chk452.eq_1 v877))
theorem k0_off1104_inb : ∀ (v877 : BitVec 32) (k0_hw452 : k0_chk452 v877), ∀ a, (k0_off1104 v877) a + S1x64.size a ≤ S1000000x64.size a := fun v877 k0_hw452 => k0_hw452

def k0_off1105 (k0_t13 : Fin k0_t13_loop.trips) (c0_i32_527 : BitVec 32) : Fin 2 → Nat :=
  let c0_i32_59 : BitVec 32 := 0#32
  let c1_i32_61 : BitVec 32 := 1#32
  let arg13 : BitVec 32 := Scf.iv c0_i32_59 c1_i32_61 k0_t13
  let c16_i32_521 : BitVec 32 := 16#32
  let v864 : BitVec 32 := Scalar.muli arg13 c16_i32_521
  let c11_i32 : BitVec 32 := 11#32
  let v865 : BitVec 32 := Scalar.addi v864 c11_i32
  let c5_i32_526 : BitVec 32 := 5#32
  let v878 : BitVec 32 := Scalar.muli v865 c5_i32_526
  let v879 : BitVec 32 := Scalar.addi v878 c0_i32_527
  let c0_i32_530 : BitVec 32 := 0#32
  ![v879.toNat, 0]
def k0_off1106 (v889 : BitVec 32) : Fin 2 → Nat :=
  let c0_i32_535 : BitVec 32 := 0#32
  ![v889.toNat, 0]

def k0_chk453 (v889 : BitVec 32) : Prop :=
  (∀ a, (k0_off1106 v889) a + S1x64.size a ≤ S1000000x64.size a)
instance k0_chk453.dec : ∀ (v889 : BitVec 32), Decidable (k0_chk453 v889) := fun v889 => decidable_of_iff' _ (Iff.of_eq (k0_chk453.eq_1 v889))
theorem k0_off1106_inb : ∀ (v889 : BitVec 32) (k0_hw453 : k0_chk453 v889), ∀ a, (k0_off1106 v889) a + S1x64.size a ≤ S1000000x64.size a := fun v889 k0_hw453 => k0_hw453

def k0_off1107 (k0_t13 : Fin k0_t13_loop.trips) (c1_i32_533 : BitVec 32) : Fin 2 → Nat :=
  let c0_i32_59 : BitVec 32 := 0#32
  let c1_i32_61 : BitVec 32 := 1#32
  let arg13 : BitVec 32 := Scf.iv c0_i32_59 c1_i32_61 k0_t13
  let c16_i32_521 : BitVec 32 := 16#32
  let v864 : BitVec 32 := Scalar.muli arg13 c16_i32_521
  let c11_i32 : BitVec 32 := 11#32
  let v865 : BitVec 32 := Scalar.addi v864 c11_i32
  let c5_i32_532 : BitVec 32 := 5#32
  let v890 : BitVec 32 := Scalar.muli v865 c5_i32_532
  let v891 : BitVec 32 := Scalar.addi v890 c1_i32_533
  let c0_i32_536 : BitVec 32 := 0#32
  ![v891.toNat, 0]
def k0_off1108 (v901 : BitVec 32) : Fin 2 → Nat :=
  let c0_i32_541 : BitVec 32 := 0#32
  ![v901.toNat, 0]

def k0_chk454 (v901 : BitVec 32) : Prop :=
  (∀ a, (k0_off1108 v901) a + S1x64.size a ≤ S1000000x64.size a)
instance k0_chk454.dec : ∀ (v901 : BitVec 32), Decidable (k0_chk454 v901) := fun v901 => decidable_of_iff' _ (Iff.of_eq (k0_chk454.eq_1 v901))
theorem k0_off1108_inb : ∀ (v901 : BitVec 32) (k0_hw454 : k0_chk454 v901), ∀ a, (k0_off1108 v901) a + S1x64.size a ≤ S1000000x64.size a := fun v901 k0_hw454 => k0_hw454

def k0_off1109 (k0_t13 : Fin k0_t13_loop.trips) (c2_i32_539 : BitVec 32) : Fin 2 → Nat :=
  let c0_i32_59 : BitVec 32 := 0#32
  let c1_i32_61 : BitVec 32 := 1#32
  let arg13 : BitVec 32 := Scf.iv c0_i32_59 c1_i32_61 k0_t13
  let c16_i32_521 : BitVec 32 := 16#32
  let v864 : BitVec 32 := Scalar.muli arg13 c16_i32_521
  let c11_i32 : BitVec 32 := 11#32
  let v865 : BitVec 32 := Scalar.addi v864 c11_i32
  let c5_i32_538 : BitVec 32 := 5#32
  let v902 : BitVec 32 := Scalar.muli v865 c5_i32_538
  let v903 : BitVec 32 := Scalar.addi v902 c2_i32_539
  let c0_i32_542 : BitVec 32 := 0#32
  ![v903.toNat, 0]
def k0_off1110 (v913 : BitVec 32) : Fin 2 → Nat :=
  let c0_i32_547 : BitVec 32 := 0#32
  ![v913.toNat, 0]

def k0_chk455 (v913 : BitVec 32) : Prop :=
  (∀ a, (k0_off1110 v913) a + S1x64.size a ≤ S1000000x64.size a)
instance k0_chk455.dec : ∀ (v913 : BitVec 32), Decidable (k0_chk455 v913) := fun v913 => decidable_of_iff' _ (Iff.of_eq (k0_chk455.eq_1 v913))
theorem k0_off1110_inb : ∀ (v913 : BitVec 32) (k0_hw455 : k0_chk455 v913), ∀ a, (k0_off1110 v913) a + S1x64.size a ≤ S1000000x64.size a := fun v913 k0_hw455 => k0_hw455

def k0_off1111 (k0_t13 : Fin k0_t13_loop.trips) (c3_i32_545 : BitVec 32) : Fin 2 → Nat :=
  let c0_i32_59 : BitVec 32 := 0#32
  let c1_i32_61 : BitVec 32 := 1#32
  let arg13 : BitVec 32 := Scf.iv c0_i32_59 c1_i32_61 k0_t13
  let c16_i32_521 : BitVec 32 := 16#32
  let v864 : BitVec 32 := Scalar.muli arg13 c16_i32_521
  let c11_i32 : BitVec 32 := 11#32
  let v865 : BitVec 32 := Scalar.addi v864 c11_i32
  let c5_i32_544 : BitVec 32 := 5#32
  let v914 : BitVec 32 := Scalar.muli v865 c5_i32_544
  let v915 : BitVec 32 := Scalar.addi v914 c3_i32_545
  let c0_i32_548 : BitVec 32 := 0#32
  ![v915.toNat, 0]
def k0_off1112 (v925 : BitVec 32) : Fin 2 → Nat :=
  let c0_i32_553 : BitVec 32 := 0#32
  ![v925.toNat, 0]

def k0_chk456 (v925 : BitVec 32) : Prop :=
  (∀ a, (k0_off1112 v925) a + S1x64.size a ≤ S1000000x64.size a)
instance k0_chk456.dec : ∀ (v925 : BitVec 32), Decidable (k0_chk456 v925) := fun v925 => decidable_of_iff' _ (Iff.of_eq (k0_chk456.eq_1 v925))
theorem k0_off1112_inb : ∀ (v925 : BitVec 32) (k0_hw456 : k0_chk456 v925), ∀ a, (k0_off1112 v925) a + S1x64.size a ≤ S1000000x64.size a := fun v925 k0_hw456 => k0_hw456

def k0_off1113 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_521 : BitVec 32 := 16#32
  let v864 : BitVec 32 := Scalar.muli arg13 c16_i32_521
  let c11_i32 : BitVec 32 := 11#32
  let v865 : BitVec 32 := Scalar.addi v864 c11_i32
  let c5_i32_550 : BitVec 32 := 5#32
  let v926 : BitVec 32 := Scalar.muli v865 c5_i32_550
  let c4_i32_551 : BitVec 32 := 4#32
  let v927 : BitVec 32 := Scalar.addi v926 c4_i32_551
  let c0_i32_554 : BitVec 32 := 0#32
  ![v927.toNat, 0]
def k0_off1114 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_556 : BitVec 32 := 16#32
  let v936 : BitVec 32 := Scalar.muli arg13 c16_i32_556
  let c12_i32 : BitVec 32 := 12#32
  let v937 : BitVec 32 := Scalar.addi v936 c12_i32
  let c0_i32_557 : BitVec 32 := 0#32
  ![v937.toNat, 0]
def k0_off1115 (v939 : BitVec 32) : Fin 2 → Nat :=
  let c0_i32_558 : BitVec 32 := 0#32
  ![v939.toNat, 0]

def k0_chk457 (v939 : BitVec 32) : Prop :=
  (∀ a, (k0_off1115 v939) a + S1x64.size a ≤ S1000000x64.size a)
instance k0_chk457.dec : ∀ (v939 : BitVec 32), Decidable (k0_chk457 v939) := fun v939 => decidable_of_iff' _ (Iff.of_eq (k0_chk457.eq_1 v939))
theorem k0_off1115_inb : ∀ (v939 : BitVec 32) (k0_hw457 : k0_chk457 v939), ∀ a, (k0_off1115 v939) a + S1x64.size a ≤ S1000000x64.size a := fun v939 k0_hw457 => k0_hw457

def k0_off1116 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_556 : BitVec 32 := 16#32
  let v936 : BitVec 32 := Scalar.muli arg13 c16_i32_556
  let c12_i32 : BitVec 32 := 12#32
  let v937 : BitVec 32 := Scalar.addi v936 c12_i32
  let c0_i32_559 : BitVec 32 := 0#32
  ![v937.toNat, 0]
def k0_off1117 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_556 : BitVec 32 := 16#32
  let v936 : BitVec 32 := Scalar.muli arg13 c16_i32_556
  let c12_i32 : BitVec 32 := 12#32
  let v937 : BitVec 32 := Scalar.addi v936 c12_i32
  let c5_i32_561 : BitVec 32 := 5#32
  let v950 : BitVec 32 := Scalar.muli v937 c5_i32_561
  let c0_i32_562 : BitVec 32 := 0#32
  let v951 : BitVec 32 := Scalar.addi v950 c0_i32_562
  let c0_i32_563 : BitVec 32 := 0#32
  ![v951.toNat, 0]
def k0_off1118 (v949 : BitVec 32) : Fin 2 → Nat :=
  let c0_i32_564 : BitVec 32 := 0#32
  ![v949.toNat, 0]

def k0_chk458 (v949 : BitVec 32) : Prop :=
  (∀ a, (k0_off1118 v949) a + S1x64.size a ≤ S1000000x64.size a)
instance k0_chk458.dec : ∀ (v949 : BitVec 32), Decidable (k0_chk458 v949) := fun v949 => decidable_of_iff' _ (Iff.of_eq (k0_chk458.eq_1 v949))
theorem k0_off1118_inb : ∀ (v949 : BitVec 32) (k0_hw458 : k0_chk458 v949), ∀ a, (k0_off1118 v949) a + S1x64.size a ≤ S1000000x64.size a := fun v949 k0_hw458 => k0_hw458

def k0_off1119 (k0_t13 : Fin k0_t13_loop.trips) (c0_i32_562 : BitVec 32) : Fin 2 → Nat :=
  let c0_i32_59 : BitVec 32 := 0#32
  let c1_i32_61 : BitVec 32 := 1#32
  let arg13 : BitVec 32 := Scf.iv c0_i32_59 c1_i32_61 k0_t13
  let c16_i32_556 : BitVec 32 := 16#32
  let v936 : BitVec 32 := Scalar.muli arg13 c16_i32_556
  let c12_i32 : BitVec 32 := 12#32
  let v937 : BitVec 32 := Scalar.addi v936 c12_i32
  let c5_i32_561 : BitVec 32 := 5#32
  let v950 : BitVec 32 := Scalar.muli v937 c5_i32_561
  let v951 : BitVec 32 := Scalar.addi v950 c0_i32_562
  let c0_i32_565 : BitVec 32 := 0#32
  ![v951.toNat, 0]
def k0_off1120 (v961 : BitVec 32) : Fin 2 → Nat :=
  let c0_i32_570 : BitVec 32 := 0#32
  ![v961.toNat, 0]

def k0_chk459 (v961 : BitVec 32) : Prop :=
  (∀ a, (k0_off1120 v961) a + S1x64.size a ≤ S1000000x64.size a)
instance k0_chk459.dec : ∀ (v961 : BitVec 32), Decidable (k0_chk459 v961) := fun v961 => decidable_of_iff' _ (Iff.of_eq (k0_chk459.eq_1 v961))
theorem k0_off1120_inb : ∀ (v961 : BitVec 32) (k0_hw459 : k0_chk459 v961), ∀ a, (k0_off1120 v961) a + S1x64.size a ≤ S1000000x64.size a := fun v961 k0_hw459 => k0_hw459

def k0_off1121 (k0_t13 : Fin k0_t13_loop.trips) (c1_i32_568 : BitVec 32) : Fin 2 → Nat :=
  let c0_i32_59 : BitVec 32 := 0#32
  let c1_i32_61 : BitVec 32 := 1#32
  let arg13 : BitVec 32 := Scf.iv c0_i32_59 c1_i32_61 k0_t13
  let c16_i32_556 : BitVec 32 := 16#32
  let v936 : BitVec 32 := Scalar.muli arg13 c16_i32_556
  let c12_i32 : BitVec 32 := 12#32
  let v937 : BitVec 32 := Scalar.addi v936 c12_i32
  let c5_i32_567 : BitVec 32 := 5#32
  let v962 : BitVec 32 := Scalar.muli v937 c5_i32_567
  let v963 : BitVec 32 := Scalar.addi v962 c1_i32_568
  let c0_i32_571 : BitVec 32 := 0#32
  ![v963.toNat, 0]
def k0_off1122 (v973 : BitVec 32) : Fin 2 → Nat :=
  let c0_i32_576 : BitVec 32 := 0#32
  ![v973.toNat, 0]

def k0_chk460 (v973 : BitVec 32) : Prop :=
  (∀ a, (k0_off1122 v973) a + S1x64.size a ≤ S1000000x64.size a)
instance k0_chk460.dec : ∀ (v973 : BitVec 32), Decidable (k0_chk460 v973) := fun v973 => decidable_of_iff' _ (Iff.of_eq (k0_chk460.eq_1 v973))
theorem k0_off1122_inb : ∀ (v973 : BitVec 32) (k0_hw460 : k0_chk460 v973), ∀ a, (k0_off1122 v973) a + S1x64.size a ≤ S1000000x64.size a := fun v973 k0_hw460 => k0_hw460

def k0_off1123 (k0_t13 : Fin k0_t13_loop.trips) (c2_i32_574 : BitVec 32) : Fin 2 → Nat :=
  let c0_i32_59 : BitVec 32 := 0#32
  let c1_i32_61 : BitVec 32 := 1#32
  let arg13 : BitVec 32 := Scf.iv c0_i32_59 c1_i32_61 k0_t13
  let c16_i32_556 : BitVec 32 := 16#32
  let v936 : BitVec 32 := Scalar.muli arg13 c16_i32_556
  let c12_i32 : BitVec 32 := 12#32
  let v937 : BitVec 32 := Scalar.addi v936 c12_i32
  let c5_i32_573 : BitVec 32 := 5#32
  let v974 : BitVec 32 := Scalar.muli v937 c5_i32_573
  let v975 : BitVec 32 := Scalar.addi v974 c2_i32_574
  let c0_i32_577 : BitVec 32 := 0#32
  ![v975.toNat, 0]
def k0_off1124 (v985 : BitVec 32) : Fin 2 → Nat :=
  let c0_i32_582 : BitVec 32 := 0#32
  ![v985.toNat, 0]

def k0_chk461 (v985 : BitVec 32) : Prop :=
  (∀ a, (k0_off1124 v985) a + S1x64.size a ≤ S1000000x64.size a)
instance k0_chk461.dec : ∀ (v985 : BitVec 32), Decidable (k0_chk461 v985) := fun v985 => decidable_of_iff' _ (Iff.of_eq (k0_chk461.eq_1 v985))
theorem k0_off1124_inb : ∀ (v985 : BitVec 32) (k0_hw461 : k0_chk461 v985), ∀ a, (k0_off1124 v985) a + S1x64.size a ≤ S1000000x64.size a := fun v985 k0_hw461 => k0_hw461

def k0_off1125 (k0_t13 : Fin k0_t13_loop.trips) (c3_i32_580 : BitVec 32) : Fin 2 → Nat :=
  let c0_i32_59 : BitVec 32 := 0#32
  let c1_i32_61 : BitVec 32 := 1#32
  let arg13 : BitVec 32 := Scf.iv c0_i32_59 c1_i32_61 k0_t13
  let c16_i32_556 : BitVec 32 := 16#32
  let v936 : BitVec 32 := Scalar.muli arg13 c16_i32_556
  let c12_i32 : BitVec 32 := 12#32
  let v937 : BitVec 32 := Scalar.addi v936 c12_i32
  let c5_i32_579 : BitVec 32 := 5#32
  let v986 : BitVec 32 := Scalar.muli v937 c5_i32_579
  let v987 : BitVec 32 := Scalar.addi v986 c3_i32_580
  let c0_i32_583 : BitVec 32 := 0#32
  ![v987.toNat, 0]
def k0_off1126 (v997 : BitVec 32) : Fin 2 → Nat :=
  let c0_i32_588 : BitVec 32 := 0#32
  ![v997.toNat, 0]

def k0_chk462 (v997 : BitVec 32) : Prop :=
  (∀ a, (k0_off1126 v997) a + S1x64.size a ≤ S1000000x64.size a)
instance k0_chk462.dec : ∀ (v997 : BitVec 32), Decidable (k0_chk462 v997) := fun v997 => decidable_of_iff' _ (Iff.of_eq (k0_chk462.eq_1 v997))
theorem k0_off1126_inb : ∀ (v997 : BitVec 32) (k0_hw462 : k0_chk462 v997), ∀ a, (k0_off1126 v997) a + S1x64.size a ≤ S1000000x64.size a := fun v997 k0_hw462 => k0_hw462

def k0_off1127 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_556 : BitVec 32 := 16#32
  let v936 : BitVec 32 := Scalar.muli arg13 c16_i32_556
  let c12_i32 : BitVec 32 := 12#32
  let v937 : BitVec 32 := Scalar.addi v936 c12_i32
  let c5_i32_585 : BitVec 32 := 5#32
  let v998 : BitVec 32 := Scalar.muli v937 c5_i32_585
  let c4_i32_586 : BitVec 32 := 4#32
  let v999 : BitVec 32 := Scalar.addi v998 c4_i32_586
  let c0_i32_589 : BitVec 32 := 0#32
  ![v999.toNat, 0]
def k0_off1128 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_591 : BitVec 32 := 16#32
  let v1008 : BitVec 32 := Scalar.muli arg13 c16_i32_591
  let c13_i32 : BitVec 32 := 13#32
  let v1009 : BitVec 32 := Scalar.addi v1008 c13_i32
  let c0_i32_592 : BitVec 32 := 0#32
  ![v1009.toNat, 0]
def k0_off1129 (v1011 : BitVec 32) : Fin 2 → Nat :=
  let c0_i32_593 : BitVec 32 := 0#32
  ![v1011.toNat, 0]

def k0_chk463 (v1011 : BitVec 32) : Prop :=
  (∀ a, (k0_off1129 v1011) a + S1x64.size a ≤ S1000000x64.size a)
instance k0_chk463.dec : ∀ (v1011 : BitVec 32), Decidable (k0_chk463 v1011) := fun v1011 => decidable_of_iff' _ (Iff.of_eq (k0_chk463.eq_1 v1011))
theorem k0_off1129_inb : ∀ (v1011 : BitVec 32) (k0_hw463 : k0_chk463 v1011), ∀ a, (k0_off1129 v1011) a + S1x64.size a ≤ S1000000x64.size a := fun v1011 k0_hw463 => k0_hw463

def k0_off1130 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_591 : BitVec 32 := 16#32
  let v1008 : BitVec 32 := Scalar.muli arg13 c16_i32_591
  let c13_i32 : BitVec 32 := 13#32
  let v1009 : BitVec 32 := Scalar.addi v1008 c13_i32
  let c0_i32_594 : BitVec 32 := 0#32
  ![v1009.toNat, 0]
def k0_off1131 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_591 : BitVec 32 := 16#32
  let v1008 : BitVec 32 := Scalar.muli arg13 c16_i32_591
  let c13_i32 : BitVec 32 := 13#32
  let v1009 : BitVec 32 := Scalar.addi v1008 c13_i32
  let c5_i32_596 : BitVec 32 := 5#32
  let v1022 : BitVec 32 := Scalar.muli v1009 c5_i32_596
  let c0_i32_597 : BitVec 32 := 0#32
  let v1023 : BitVec 32 := Scalar.addi v1022 c0_i32_597
  let c0_i32_598 : BitVec 32 := 0#32
  ![v1023.toNat, 0]
def k0_off1132 (v1021 : BitVec 32) : Fin 2 → Nat :=
  let c0_i32_599 : BitVec 32 := 0#32
  ![v1021.toNat, 0]

def k0_chk464 (v1021 : BitVec 32) : Prop :=
  (∀ a, (k0_off1132 v1021) a + S1x64.size a ≤ S1000000x64.size a)
instance k0_chk464.dec : ∀ (v1021 : BitVec 32), Decidable (k0_chk464 v1021) := fun v1021 => decidable_of_iff' _ (Iff.of_eq (k0_chk464.eq_1 v1021))
theorem k0_off1132_inb : ∀ (v1021 : BitVec 32) (k0_hw464 : k0_chk464 v1021), ∀ a, (k0_off1132 v1021) a + S1x64.size a ≤ S1000000x64.size a := fun v1021 k0_hw464 => k0_hw464

def k0_off1133 (k0_t13 : Fin k0_t13_loop.trips) (c0_i32_597 : BitVec 32) : Fin 2 → Nat :=
  let c0_i32_59 : BitVec 32 := 0#32
  let c1_i32_61 : BitVec 32 := 1#32
  let arg13 : BitVec 32 := Scf.iv c0_i32_59 c1_i32_61 k0_t13
  let c16_i32_591 : BitVec 32 := 16#32
  let v1008 : BitVec 32 := Scalar.muli arg13 c16_i32_591
  let c13_i32 : BitVec 32 := 13#32
  let v1009 : BitVec 32 := Scalar.addi v1008 c13_i32
  let c5_i32_596 : BitVec 32 := 5#32
  let v1022 : BitVec 32 := Scalar.muli v1009 c5_i32_596
  let v1023 : BitVec 32 := Scalar.addi v1022 c0_i32_597
  let c0_i32_600 : BitVec 32 := 0#32
  ![v1023.toNat, 0]
def k0_off1134 (v1033 : BitVec 32) : Fin 2 → Nat :=
  let c0_i32_605 : BitVec 32 := 0#32
  ![v1033.toNat, 0]

def k0_chk465 (v1033 : BitVec 32) : Prop :=
  (∀ a, (k0_off1134 v1033) a + S1x64.size a ≤ S1000000x64.size a)
instance k0_chk465.dec : ∀ (v1033 : BitVec 32), Decidable (k0_chk465 v1033) := fun v1033 => decidable_of_iff' _ (Iff.of_eq (k0_chk465.eq_1 v1033))
theorem k0_off1134_inb : ∀ (v1033 : BitVec 32) (k0_hw465 : k0_chk465 v1033), ∀ a, (k0_off1134 v1033) a + S1x64.size a ≤ S1000000x64.size a := fun v1033 k0_hw465 => k0_hw465

def k0_off1135 (k0_t13 : Fin k0_t13_loop.trips) (c1_i32_603 : BitVec 32) : Fin 2 → Nat :=
  let c0_i32_59 : BitVec 32 := 0#32
  let c1_i32_61 : BitVec 32 := 1#32
  let arg13 : BitVec 32 := Scf.iv c0_i32_59 c1_i32_61 k0_t13
  let c16_i32_591 : BitVec 32 := 16#32
  let v1008 : BitVec 32 := Scalar.muli arg13 c16_i32_591
  let c13_i32 : BitVec 32 := 13#32
  let v1009 : BitVec 32 := Scalar.addi v1008 c13_i32
  let c5_i32_602 : BitVec 32 := 5#32
  let v1034 : BitVec 32 := Scalar.muli v1009 c5_i32_602
  let v1035 : BitVec 32 := Scalar.addi v1034 c1_i32_603
  let c0_i32_606 : BitVec 32 := 0#32
  ![v1035.toNat, 0]
def k0_off1136 (v1045 : BitVec 32) : Fin 2 → Nat :=
  let c0_i32_611 : BitVec 32 := 0#32
  ![v1045.toNat, 0]

def k0_chk466 (v1045 : BitVec 32) : Prop :=
  (∀ a, (k0_off1136 v1045) a + S1x64.size a ≤ S1000000x64.size a)
instance k0_chk466.dec : ∀ (v1045 : BitVec 32), Decidable (k0_chk466 v1045) := fun v1045 => decidable_of_iff' _ (Iff.of_eq (k0_chk466.eq_1 v1045))
theorem k0_off1136_inb : ∀ (v1045 : BitVec 32) (k0_hw466 : k0_chk466 v1045), ∀ a, (k0_off1136 v1045) a + S1x64.size a ≤ S1000000x64.size a := fun v1045 k0_hw466 => k0_hw466

def k0_off1137 (k0_t13 : Fin k0_t13_loop.trips) (c2_i32_609 : BitVec 32) : Fin 2 → Nat :=
  let c0_i32_59 : BitVec 32 := 0#32
  let c1_i32_61 : BitVec 32 := 1#32
  let arg13 : BitVec 32 := Scf.iv c0_i32_59 c1_i32_61 k0_t13
  let c16_i32_591 : BitVec 32 := 16#32
  let v1008 : BitVec 32 := Scalar.muli arg13 c16_i32_591
  let c13_i32 : BitVec 32 := 13#32
  let v1009 : BitVec 32 := Scalar.addi v1008 c13_i32
  let c5_i32_608 : BitVec 32 := 5#32
  let v1046 : BitVec 32 := Scalar.muli v1009 c5_i32_608
  let v1047 : BitVec 32 := Scalar.addi v1046 c2_i32_609
  let c0_i32_612 : BitVec 32 := 0#32
  ![v1047.toNat, 0]
def k0_off1138 (v1057 : BitVec 32) : Fin 2 → Nat :=
  let c0_i32_617 : BitVec 32 := 0#32
  ![v1057.toNat, 0]

def k0_chk467 (v1057 : BitVec 32) : Prop :=
  (∀ a, (k0_off1138 v1057) a + S1x64.size a ≤ S1000000x64.size a)
instance k0_chk467.dec : ∀ (v1057 : BitVec 32), Decidable (k0_chk467 v1057) := fun v1057 => decidable_of_iff' _ (Iff.of_eq (k0_chk467.eq_1 v1057))
theorem k0_off1138_inb : ∀ (v1057 : BitVec 32) (k0_hw467 : k0_chk467 v1057), ∀ a, (k0_off1138 v1057) a + S1x64.size a ≤ S1000000x64.size a := fun v1057 k0_hw467 => k0_hw467

def k0_off1139 (k0_t13 : Fin k0_t13_loop.trips) (c3_i32_615 : BitVec 32) : Fin 2 → Nat :=
  let c0_i32_59 : BitVec 32 := 0#32
  let c1_i32_61 : BitVec 32 := 1#32
  let arg13 : BitVec 32 := Scf.iv c0_i32_59 c1_i32_61 k0_t13
  let c16_i32_591 : BitVec 32 := 16#32
  let v1008 : BitVec 32 := Scalar.muli arg13 c16_i32_591
  let c13_i32 : BitVec 32 := 13#32
  let v1009 : BitVec 32 := Scalar.addi v1008 c13_i32
  let c5_i32_614 : BitVec 32 := 5#32
  let v1058 : BitVec 32 := Scalar.muli v1009 c5_i32_614
  let v1059 : BitVec 32 := Scalar.addi v1058 c3_i32_615
  let c0_i32_618 : BitVec 32 := 0#32
  ![v1059.toNat, 0]
def k0_off1140 (v1069 : BitVec 32) : Fin 2 → Nat :=
  let c0_i32_623 : BitVec 32 := 0#32
  ![v1069.toNat, 0]

def k0_chk468 (v1069 : BitVec 32) : Prop :=
  (∀ a, (k0_off1140 v1069) a + S1x64.size a ≤ S1000000x64.size a)
instance k0_chk468.dec : ∀ (v1069 : BitVec 32), Decidable (k0_chk468 v1069) := fun v1069 => decidable_of_iff' _ (Iff.of_eq (k0_chk468.eq_1 v1069))
theorem k0_off1140_inb : ∀ (v1069 : BitVec 32) (k0_hw468 : k0_chk468 v1069), ∀ a, (k0_off1140 v1069) a + S1x64.size a ≤ S1000000x64.size a := fun v1069 k0_hw468 => k0_hw468

def k0_off1141 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_591 : BitVec 32 := 16#32
  let v1008 : BitVec 32 := Scalar.muli arg13 c16_i32_591
  let c13_i32 : BitVec 32 := 13#32
  let v1009 : BitVec 32 := Scalar.addi v1008 c13_i32
  let c5_i32_620 : BitVec 32 := 5#32
  let v1070 : BitVec 32 := Scalar.muli v1009 c5_i32_620
  let c4_i32_621 : BitVec 32 := 4#32
  let v1071 : BitVec 32 := Scalar.addi v1070 c4_i32_621
  let c0_i32_624 : BitVec 32 := 0#32
  ![v1071.toNat, 0]
def k0_off1142 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_626 : BitVec 32 := 16#32
  let v1080 : BitVec 32 := Scalar.muli arg13 c16_i32_626
  let c14_i32 : BitVec 32 := 14#32
  let v1081 : BitVec 32 := Scalar.addi v1080 c14_i32
  let c0_i32_627 : BitVec 32 := 0#32
  ![v1081.toNat, 0]
def k0_off1143 (v1083 : BitVec 32) : Fin 2 → Nat :=
  let c0_i32_628 : BitVec 32 := 0#32
  ![v1083.toNat, 0]

def k0_chk469 (v1083 : BitVec 32) : Prop :=
  (∀ a, (k0_off1143 v1083) a + S1x64.size a ≤ S1000000x64.size a)
instance k0_chk469.dec : ∀ (v1083 : BitVec 32), Decidable (k0_chk469 v1083) := fun v1083 => decidable_of_iff' _ (Iff.of_eq (k0_chk469.eq_1 v1083))
theorem k0_off1143_inb : ∀ (v1083 : BitVec 32) (k0_hw469 : k0_chk469 v1083), ∀ a, (k0_off1143 v1083) a + S1x64.size a ≤ S1000000x64.size a := fun v1083 k0_hw469 => k0_hw469

def k0_off1144 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_626 : BitVec 32 := 16#32
  let v1080 : BitVec 32 := Scalar.muli arg13 c16_i32_626
  let c14_i32 : BitVec 32 := 14#32
  let v1081 : BitVec 32 := Scalar.addi v1080 c14_i32
  let c0_i32_629 : BitVec 32 := 0#32
  ![v1081.toNat, 0]
def k0_off1145 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_626 : BitVec 32 := 16#32
  let v1080 : BitVec 32 := Scalar.muli arg13 c16_i32_626
  let c14_i32 : BitVec 32 := 14#32
  let v1081 : BitVec 32 := Scalar.addi v1080 c14_i32
  let c5_i32_631 : BitVec 32 := 5#32
  let v1094 : BitVec 32 := Scalar.muli v1081 c5_i32_631
  let c0_i32_632 : BitVec 32 := 0#32
  let v1095 : BitVec 32 := Scalar.addi v1094 c0_i32_632
  let c0_i32_633 : BitVec 32 := 0#32
  ![v1095.toNat, 0]
def k0_off1146 (v1093 : BitVec 32) : Fin 2 → Nat :=
  let c0_i32_634 : BitVec 32 := 0#32
  ![v1093.toNat, 0]

def k0_chk470 (v1093 : BitVec 32) : Prop :=
  (∀ a, (k0_off1146 v1093) a + S1x64.size a ≤ S1000000x64.size a)
instance k0_chk470.dec : ∀ (v1093 : BitVec 32), Decidable (k0_chk470 v1093) := fun v1093 => decidable_of_iff' _ (Iff.of_eq (k0_chk470.eq_1 v1093))
theorem k0_off1146_inb : ∀ (v1093 : BitVec 32) (k0_hw470 : k0_chk470 v1093), ∀ a, (k0_off1146 v1093) a + S1x64.size a ≤ S1000000x64.size a := fun v1093 k0_hw470 => k0_hw470

def k0_off1147 (k0_t13 : Fin k0_t13_loop.trips) (c0_i32_632 : BitVec 32) : Fin 2 → Nat :=
  let c0_i32_59 : BitVec 32 := 0#32
  let c1_i32_61 : BitVec 32 := 1#32
  let arg13 : BitVec 32 := Scf.iv c0_i32_59 c1_i32_61 k0_t13
  let c16_i32_626 : BitVec 32 := 16#32
  let v1080 : BitVec 32 := Scalar.muli arg13 c16_i32_626
  let c14_i32 : BitVec 32 := 14#32
  let v1081 : BitVec 32 := Scalar.addi v1080 c14_i32
  let c5_i32_631 : BitVec 32 := 5#32
  let v1094 : BitVec 32 := Scalar.muli v1081 c5_i32_631
  let v1095 : BitVec 32 := Scalar.addi v1094 c0_i32_632
  let c0_i32_635 : BitVec 32 := 0#32
  ![v1095.toNat, 0]
def k0_off1148 (v1105 : BitVec 32) : Fin 2 → Nat :=
  let c0_i32_640 : BitVec 32 := 0#32
  ![v1105.toNat, 0]

def k0_chk471 (v1105 : BitVec 32) : Prop :=
  (∀ a, (k0_off1148 v1105) a + S1x64.size a ≤ S1000000x64.size a)
instance k0_chk471.dec : ∀ (v1105 : BitVec 32), Decidable (k0_chk471 v1105) := fun v1105 => decidable_of_iff' _ (Iff.of_eq (k0_chk471.eq_1 v1105))
theorem k0_off1148_inb : ∀ (v1105 : BitVec 32) (k0_hw471 : k0_chk471 v1105), ∀ a, (k0_off1148 v1105) a + S1x64.size a ≤ S1000000x64.size a := fun v1105 k0_hw471 => k0_hw471

def k0_off1149 (k0_t13 : Fin k0_t13_loop.trips) (c1_i32_638 : BitVec 32) : Fin 2 → Nat :=
  let c0_i32_59 : BitVec 32 := 0#32
  let c1_i32_61 : BitVec 32 := 1#32
  let arg13 : BitVec 32 := Scf.iv c0_i32_59 c1_i32_61 k0_t13
  let c16_i32_626 : BitVec 32 := 16#32
  let v1080 : BitVec 32 := Scalar.muli arg13 c16_i32_626
  let c14_i32 : BitVec 32 := 14#32
  let v1081 : BitVec 32 := Scalar.addi v1080 c14_i32
  let c5_i32_637 : BitVec 32 := 5#32
  let v1106 : BitVec 32 := Scalar.muli v1081 c5_i32_637
  let v1107 : BitVec 32 := Scalar.addi v1106 c1_i32_638
  let c0_i32_641 : BitVec 32 := 0#32
  ![v1107.toNat, 0]
def k0_off1150 (v1117 : BitVec 32) : Fin 2 → Nat :=
  let c0_i32_646 : BitVec 32 := 0#32
  ![v1117.toNat, 0]

def k0_chk472 (v1117 : BitVec 32) : Prop :=
  (∀ a, (k0_off1150 v1117) a + S1x64.size a ≤ S1000000x64.size a)
instance k0_chk472.dec : ∀ (v1117 : BitVec 32), Decidable (k0_chk472 v1117) := fun v1117 => decidable_of_iff' _ (Iff.of_eq (k0_chk472.eq_1 v1117))
theorem k0_off1150_inb : ∀ (v1117 : BitVec 32) (k0_hw472 : k0_chk472 v1117), ∀ a, (k0_off1150 v1117) a + S1x64.size a ≤ S1000000x64.size a := fun v1117 k0_hw472 => k0_hw472

def k0_off1151 (k0_t13 : Fin k0_t13_loop.trips) (c2_i32_644 : BitVec 32) : Fin 2 → Nat :=
  let c0_i32_59 : BitVec 32 := 0#32
  let c1_i32_61 : BitVec 32 := 1#32
  let arg13 : BitVec 32 := Scf.iv c0_i32_59 c1_i32_61 k0_t13
  let c16_i32_626 : BitVec 32 := 16#32
  let v1080 : BitVec 32 := Scalar.muli arg13 c16_i32_626
  let c14_i32 : BitVec 32 := 14#32
  let v1081 : BitVec 32 := Scalar.addi v1080 c14_i32
  let c5_i32_643 : BitVec 32 := 5#32
  let v1118 : BitVec 32 := Scalar.muli v1081 c5_i32_643
  let v1119 : BitVec 32 := Scalar.addi v1118 c2_i32_644
  let c0_i32_647 : BitVec 32 := 0#32
  ![v1119.toNat, 0]
def k0_off1152 (v1129 : BitVec 32) : Fin 2 → Nat :=
  let c0_i32_652 : BitVec 32 := 0#32
  ![v1129.toNat, 0]

def k0_chk473 (v1129 : BitVec 32) : Prop :=
  (∀ a, (k0_off1152 v1129) a + S1x64.size a ≤ S1000000x64.size a)
instance k0_chk473.dec : ∀ (v1129 : BitVec 32), Decidable (k0_chk473 v1129) := fun v1129 => decidable_of_iff' _ (Iff.of_eq (k0_chk473.eq_1 v1129))
theorem k0_off1152_inb : ∀ (v1129 : BitVec 32) (k0_hw473 : k0_chk473 v1129), ∀ a, (k0_off1152 v1129) a + S1x64.size a ≤ S1000000x64.size a := fun v1129 k0_hw473 => k0_hw473

def k0_off1153 (k0_t13 : Fin k0_t13_loop.trips) (c3_i32_650 : BitVec 32) : Fin 2 → Nat :=
  let c0_i32_59 : BitVec 32 := 0#32
  let c1_i32_61 : BitVec 32 := 1#32
  let arg13 : BitVec 32 := Scf.iv c0_i32_59 c1_i32_61 k0_t13
  let c16_i32_626 : BitVec 32 := 16#32
  let v1080 : BitVec 32 := Scalar.muli arg13 c16_i32_626
  let c14_i32 : BitVec 32 := 14#32
  let v1081 : BitVec 32 := Scalar.addi v1080 c14_i32
  let c5_i32_649 : BitVec 32 := 5#32
  let v1130 : BitVec 32 := Scalar.muli v1081 c5_i32_649
  let v1131 : BitVec 32 := Scalar.addi v1130 c3_i32_650
  let c0_i32_653 : BitVec 32 := 0#32
  ![v1131.toNat, 0]
def k0_off1154 (v1141 : BitVec 32) : Fin 2 → Nat :=
  let c0_i32_658 : BitVec 32 := 0#32
  ![v1141.toNat, 0]

def k0_chk474 (v1141 : BitVec 32) : Prop :=
  (∀ a, (k0_off1154 v1141) a + S1x64.size a ≤ S1000000x64.size a)
instance k0_chk474.dec : ∀ (v1141 : BitVec 32), Decidable (k0_chk474 v1141) := fun v1141 => decidable_of_iff' _ (Iff.of_eq (k0_chk474.eq_1 v1141))
theorem k0_off1154_inb : ∀ (v1141 : BitVec 32) (k0_hw474 : k0_chk474 v1141), ∀ a, (k0_off1154 v1141) a + S1x64.size a ≤ S1000000x64.size a := fun v1141 k0_hw474 => k0_hw474

def k0_off1155 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_626 : BitVec 32 := 16#32
  let v1080 : BitVec 32 := Scalar.muli arg13 c16_i32_626
  let c14_i32 : BitVec 32 := 14#32
  let v1081 : BitVec 32 := Scalar.addi v1080 c14_i32
  let c5_i32_655 : BitVec 32 := 5#32
  let v1142 : BitVec 32 := Scalar.muli v1081 c5_i32_655
  let c4_i32_656 : BitVec 32 := 4#32
  let v1143 : BitVec 32 := Scalar.addi v1142 c4_i32_656
  let c0_i32_659 : BitVec 32 := 0#32
  ![v1143.toNat, 0]
def k0_off1156 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_661 : BitVec 32 := 16#32
  let v1152 : BitVec 32 := Scalar.muli arg13 c16_i32_661
  let c15_i32 : BitVec 32 := 15#32
  let v1153 : BitVec 32 := Scalar.addi v1152 c15_i32
  let c0_i32_662 : BitVec 32 := 0#32
  ![v1153.toNat, 0]
def k0_off1157 (v1155 : BitVec 32) : Fin 2 → Nat :=
  let c0_i32_663 : BitVec 32 := 0#32
  ![v1155.toNat, 0]

def k0_chk475 (v1155 : BitVec 32) : Prop :=
  (∀ a, (k0_off1157 v1155) a + S1x64.size a ≤ S1000000x64.size a)
instance k0_chk475.dec : ∀ (v1155 : BitVec 32), Decidable (k0_chk475 v1155) := fun v1155 => decidable_of_iff' _ (Iff.of_eq (k0_chk475.eq_1 v1155))
theorem k0_off1157_inb : ∀ (v1155 : BitVec 32) (k0_hw475 : k0_chk475 v1155), ∀ a, (k0_off1157 v1155) a + S1x64.size a ≤ S1000000x64.size a := fun v1155 k0_hw475 => k0_hw475

def k0_off1158 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_661 : BitVec 32 := 16#32
  let v1152 : BitVec 32 := Scalar.muli arg13 c16_i32_661
  let c15_i32 : BitVec 32 := 15#32
  let v1153 : BitVec 32 := Scalar.addi v1152 c15_i32
  let c0_i32_664 : BitVec 32 := 0#32
  ![v1153.toNat, 0]
def k0_off1159 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_661 : BitVec 32 := 16#32
  let v1152 : BitVec 32 := Scalar.muli arg13 c16_i32_661
  let c15_i32 : BitVec 32 := 15#32
  let v1153 : BitVec 32 := Scalar.addi v1152 c15_i32
  let c5_i32_666 : BitVec 32 := 5#32
  let v1166 : BitVec 32 := Scalar.muli v1153 c5_i32_666
  let c0_i32_667 : BitVec 32 := 0#32
  let v1167 : BitVec 32 := Scalar.addi v1166 c0_i32_667
  let c0_i32_668 : BitVec 32 := 0#32
  ![v1167.toNat, 0]
def k0_off1160 (v1165 : BitVec 32) : Fin 2 → Nat :=
  let c0_i32_669 : BitVec 32 := 0#32
  ![v1165.toNat, 0]

def k0_chk476 (v1165 : BitVec 32) : Prop :=
  (∀ a, (k0_off1160 v1165) a + S1x64.size a ≤ S1000000x64.size a)
instance k0_chk476.dec : ∀ (v1165 : BitVec 32), Decidable (k0_chk476 v1165) := fun v1165 => decidable_of_iff' _ (Iff.of_eq (k0_chk476.eq_1 v1165))
theorem k0_off1160_inb : ∀ (v1165 : BitVec 32) (k0_hw476 : k0_chk476 v1165), ∀ a, (k0_off1160 v1165) a + S1x64.size a ≤ S1000000x64.size a := fun v1165 k0_hw476 => k0_hw476

def k0_off1161 (k0_t13 : Fin k0_t13_loop.trips) (c0_i32_667 : BitVec 32) : Fin 2 → Nat :=
  let c0_i32_59 : BitVec 32 := 0#32
  let c1_i32_61 : BitVec 32 := 1#32
  let arg13 : BitVec 32 := Scf.iv c0_i32_59 c1_i32_61 k0_t13
  let c16_i32_661 : BitVec 32 := 16#32
  let v1152 : BitVec 32 := Scalar.muli arg13 c16_i32_661
  let c15_i32 : BitVec 32 := 15#32
  let v1153 : BitVec 32 := Scalar.addi v1152 c15_i32
  let c5_i32_666 : BitVec 32 := 5#32
  let v1166 : BitVec 32 := Scalar.muli v1153 c5_i32_666
  let v1167 : BitVec 32 := Scalar.addi v1166 c0_i32_667
  let c0_i32_670 : BitVec 32 := 0#32
  ![v1167.toNat, 0]
def k0_off1162 (v1177 : BitVec 32) : Fin 2 → Nat :=
  let c0_i32_675 : BitVec 32 := 0#32
  ![v1177.toNat, 0]

def k0_chk477 (v1177 : BitVec 32) : Prop :=
  (∀ a, (k0_off1162 v1177) a + S1x64.size a ≤ S1000000x64.size a)
instance k0_chk477.dec : ∀ (v1177 : BitVec 32), Decidable (k0_chk477 v1177) := fun v1177 => decidable_of_iff' _ (Iff.of_eq (k0_chk477.eq_1 v1177))
theorem k0_off1162_inb : ∀ (v1177 : BitVec 32) (k0_hw477 : k0_chk477 v1177), ∀ a, (k0_off1162 v1177) a + S1x64.size a ≤ S1000000x64.size a := fun v1177 k0_hw477 => k0_hw477

def k0_off1163 (k0_t13 : Fin k0_t13_loop.trips) (c1_i32_673 : BitVec 32) : Fin 2 → Nat :=
  let c0_i32_59 : BitVec 32 := 0#32
  let c1_i32_61 : BitVec 32 := 1#32
  let arg13 : BitVec 32 := Scf.iv c0_i32_59 c1_i32_61 k0_t13
  let c16_i32_661 : BitVec 32 := 16#32
  let v1152 : BitVec 32 := Scalar.muli arg13 c16_i32_661
  let c15_i32 : BitVec 32 := 15#32
  let v1153 : BitVec 32 := Scalar.addi v1152 c15_i32
  let c5_i32_672 : BitVec 32 := 5#32
  let v1178 : BitVec 32 := Scalar.muli v1153 c5_i32_672
  let v1179 : BitVec 32 := Scalar.addi v1178 c1_i32_673
  let c0_i32_676 : BitVec 32 := 0#32
  ![v1179.toNat, 0]
def k0_off1164 (v1189 : BitVec 32) : Fin 2 → Nat :=
  let c0_i32_681 : BitVec 32 := 0#32
  ![v1189.toNat, 0]

def k0_chk478 (v1189 : BitVec 32) : Prop :=
  (∀ a, (k0_off1164 v1189) a + S1x64.size a ≤ S1000000x64.size a)
instance k0_chk478.dec : ∀ (v1189 : BitVec 32), Decidable (k0_chk478 v1189) := fun v1189 => decidable_of_iff' _ (Iff.of_eq (k0_chk478.eq_1 v1189))
theorem k0_off1164_inb : ∀ (v1189 : BitVec 32) (k0_hw478 : k0_chk478 v1189), ∀ a, (k0_off1164 v1189) a + S1x64.size a ≤ S1000000x64.size a := fun v1189 k0_hw478 => k0_hw478

def k0_off1165 (k0_t13 : Fin k0_t13_loop.trips) (c2_i32_679 : BitVec 32) : Fin 2 → Nat :=
  let c0_i32_59 : BitVec 32 := 0#32
  let c1_i32_61 : BitVec 32 := 1#32
  let arg13 : BitVec 32 := Scf.iv c0_i32_59 c1_i32_61 k0_t13
  let c16_i32_661 : BitVec 32 := 16#32
  let v1152 : BitVec 32 := Scalar.muli arg13 c16_i32_661
  let c15_i32 : BitVec 32 := 15#32
  let v1153 : BitVec 32 := Scalar.addi v1152 c15_i32
  let c5_i32_678 : BitVec 32 := 5#32
  let v1190 : BitVec 32 := Scalar.muli v1153 c5_i32_678
  let v1191 : BitVec 32 := Scalar.addi v1190 c2_i32_679
  let c0_i32_682 : BitVec 32 := 0#32
  ![v1191.toNat, 0]
def k0_off1166 (v1201 : BitVec 32) : Fin 2 → Nat :=
  let c0_i32_687 : BitVec 32 := 0#32
  ![v1201.toNat, 0]

def k0_chk479 (v1201 : BitVec 32) : Prop :=
  (∀ a, (k0_off1166 v1201) a + S1x64.size a ≤ S1000000x64.size a)
instance k0_chk479.dec : ∀ (v1201 : BitVec 32), Decidable (k0_chk479 v1201) := fun v1201 => decidable_of_iff' _ (Iff.of_eq (k0_chk479.eq_1 v1201))
theorem k0_off1166_inb : ∀ (v1201 : BitVec 32) (k0_hw479 : k0_chk479 v1201), ∀ a, (k0_off1166 v1201) a + S1x64.size a ≤ S1000000x64.size a := fun v1201 k0_hw479 => k0_hw479

def k0_off1167 (k0_t13 : Fin k0_t13_loop.trips) (c3_i32_685 : BitVec 32) : Fin 2 → Nat :=
  let c0_i32_59 : BitVec 32 := 0#32
  let c1_i32_61 : BitVec 32 := 1#32
  let arg13 : BitVec 32 := Scf.iv c0_i32_59 c1_i32_61 k0_t13
  let c16_i32_661 : BitVec 32 := 16#32
  let v1152 : BitVec 32 := Scalar.muli arg13 c16_i32_661
  let c15_i32 : BitVec 32 := 15#32
  let v1153 : BitVec 32 := Scalar.addi v1152 c15_i32
  let c5_i32_684 : BitVec 32 := 5#32
  let v1202 : BitVec 32 := Scalar.muli v1153 c5_i32_684
  let v1203 : BitVec 32 := Scalar.addi v1202 c3_i32_685
  let c0_i32_688 : BitVec 32 := 0#32
  ![v1203.toNat, 0]
def k0_off1168 (v1213 : BitVec 32) : Fin 2 → Nat :=
  let c0_i32_693 : BitVec 32 := 0#32
  ![v1213.toNat, 0]

def k0_chk480 (v1213 : BitVec 32) : Prop :=
  (∀ a, (k0_off1168 v1213) a + S1x64.size a ≤ S1000000x64.size a)
instance k0_chk480.dec : ∀ (v1213 : BitVec 32), Decidable (k0_chk480 v1213) := fun v1213 => decidable_of_iff' _ (Iff.of_eq (k0_chk480.eq_1 v1213))
theorem k0_off1168_inb : ∀ (v1213 : BitVec 32) (k0_hw480 : k0_chk480 v1213), ∀ a, (k0_off1168 v1213) a + S1x64.size a ≤ S1000000x64.size a := fun v1213 k0_hw480 => k0_hw480

def k0_off1169 (k0_t13 : Fin k0_t13_loop.trips) : Fin 2 → Nat :=
  let c0_i32_59 : BitVec 32 := 0#32
  let c1_i32_61 : BitVec 32 := 1#32
  let arg13 : BitVec 32 := Scf.iv c0_i32_59 c1_i32_61 k0_t13
  let c16_i32_661 : BitVec 32 := 16#32
  let v1152 : BitVec 32 := Scalar.muli arg13 c16_i32_661
  let c15_i32 : BitVec 32 := 15#32
  let v1153 : BitVec 32 := Scalar.addi v1152 c15_i32
  let c5_i32_690 : BitVec 32 := 5#32
  let v1214 : BitVec 32 := Scalar.muli v1153 c5_i32_690
  let c4_i32_691 : BitVec 32 := 4#32
  let v1215 : BitVec 32 := Scalar.addi v1214 c4_i32_691
  let c0_i32_694 : BitVec 32 := 0#32
  ![v1215.toNat, 0]
@[reducible] def k0_t14_loop : Scf.Loop 32 :=
  let c0_i32_64 : BitVec 32 := 0#32
  let c64_i32_65 : BitVec 32 := 64#32
  let v21 : BitVec 32 := Scalar.addi c0_i32_64 c64_i32_65
  let c1_i32_66 : BitVec 32 := 1#32
  ⟨c0_i32_64, v21, c1_i32_66⟩
@[reducible] def k0_t15_loop : Scf.Loop 32 :=
  let c0_i32_69 : BitVec 32 := 0#32
  let c64_i32_70 : BitVec 32 := 64#32
  let v22 : BitVec 32 := Scalar.addi c0_i32_69 c64_i32_70
  let c1_i32_71 : BitVec 32 := 1#32
  ⟨c0_i32_69, v22, c1_i32_71⟩
def k0_off1170 (k0_t15 : Fin k0_t15_loop.trips) : Fin 2 → Nat :=
  let c0_i32_69 : BitVec 32 := 0#32
  let c1_i32_71 : BitVec 32 := 1#32
  let arg13 : BitVec 32 := Scf.iv c0_i32_69 c1_i32_71 k0_t15
  let v37 : Index := Scalar.indexCast arg13
  let c0 : Index := 0#32
  ![v37.toNat, 0]
def k0_off1171 (k0_t15 : Fin k0_t15_loop.trips) : Fin 2 → Nat :=
  let c0_i32_69 : BitVec 32 := 0#32
  let c1_i32_71 : BitVec 32 := 1#32
  let arg13 : BitVec 32 := Scf.iv c0_i32_69 c1_i32_71 k0_t15
  let v40 : Index := Scalar.indexCast arg13
  let c16 : Index := 16#32
  ![v40.toNat, 16]
def k0_off1172 (k0_t15 : Fin k0_t15_loop.trips) : Fin 2 → Nat :=
  let c0_i32_69 : BitVec 32 := 0#32
  let c1_i32_71 : BitVec 32 := 1#32
  let arg13 : BitVec 32 := Scf.iv c0_i32_69 c1_i32_71 k0_t15
  let v43 : Index := Scalar.indexCast arg13
  let c32 : Index := 32#32
  ![v43.toNat, 32]
def k0_off1173 (k0_t15 : Fin k0_t15_loop.trips) : Fin 2 → Nat :=
  let c0_i32_69 : BitVec 32 := 0#32
  let c1_i32_71 : BitVec 32 := 1#32
  let arg13 : BitVec 32 := Scf.iv c0_i32_69 c1_i32_71 k0_t15
  let v46 : Index := Scalar.indexCast arg13
  let c48 : Index := 48#32
  ![v46.toNat, 48]
def k0_off1174 (k0_t15 : Fin k0_t15_loop.trips) (c0_i32_121 : BitVec 32) : Fin 2 → Nat :=
  let c0_i32_69 : BitVec 32 := 0#32
  let c1_i32_71 : BitVec 32 := 1#32
  let arg13 : BitVec 32 := Scf.iv c0_i32_69 c1_i32_71 k0_t15
  let c5_i32_120 : BitVec 32 := 5#32
  let v51 : BitVec 32 := Scalar.muli arg13 c5_i32_120
  let v52 : BitVec 32 := Scalar.addi v51 c0_i32_121
  let v53 : Index := Scalar.indexCast v52
  let c0_122 : Index := 0#32
  ![v53.toNat, 0]
def k0_off1175 (k0_t15 : Fin k0_t15_loop.trips) (c0_i32_121 : BitVec 32) : Fin 2 → Nat :=
  let c0_i32_69 : BitVec 32 := 0#32
  let c1_i32_71 : BitVec 32 := 1#32
  let arg13 : BitVec 32 := Scf.iv c0_i32_69 c1_i32_71 k0_t15
  let c5_i32_120 : BitVec 32 := 5#32
  let v51 : BitVec 32 := Scalar.muli arg13 c5_i32_120
  let v52 : BitVec 32 := Scalar.addi v51 c0_i32_121
  let v57 : Index := Scalar.indexCast v52
  let c16_123 : Index := 16#32
  ![v57.toNat, 16]
def k0_off1176 (k0_t15 : Fin k0_t15_loop.trips) (c0_i32_121 : BitVec 32) : Fin 2 → Nat :=
  let c0_i32_69 : BitVec 32 := 0#32
  let c1_i32_71 : BitVec 32 := 1#32
  let arg13 : BitVec 32 := Scf.iv c0_i32_69 c1_i32_71 k0_t15
  let c5_i32_120 : BitVec 32 := 5#32
  let v51 : BitVec 32 := Scalar.muli arg13 c5_i32_120
  let v52 : BitVec 32 := Scalar.addi v51 c0_i32_121
  let v62 : Index := Scalar.indexCast v52
  let c32_124 : Index := 32#32
  ![v62.toNat, 32]
def k0_off1177 (k0_t15 : Fin k0_t15_loop.trips) (c0_i32_121 : BitVec 32) : Fin 2 → Nat :=
  let c0_i32_69 : BitVec 32 := 0#32
  let c1_i32_71 : BitVec 32 := 1#32
  let arg13 : BitVec 32 := Scf.iv c0_i32_69 c1_i32_71 k0_t15
  let c5_i32_120 : BitVec 32 := 5#32
  let v51 : BitVec 32 := Scalar.muli arg13 c5_i32_120
  let v52 : BitVec 32 := Scalar.addi v51 c0_i32_121
  let v67 : Index := Scalar.indexCast v52
  let c48_125 : Index := 48#32
  ![v67.toNat, 48]
def k0_off1178 (k0_t15 : Fin k0_t15_loop.trips) (c0_i32_126 : BitVec 32) : Fin 1 → Nat :=
  let c256_i32_118 : BitVec 32 := 256#32
  let c0_i32_69 : BitVec 32 := 0#32
  let c1_i32_71 : BitVec 32 := 1#32
  let arg13 : BitVec 32 := Scf.iv c0_i32_69 c1_i32_71 k0_t15
  let v49 : BitVec 32 := Scalar.addi c256_i32_118 arg13
  let c80_i32_119 : BitVec 32 := 80#32
  let v50 : BitVec 32 := Scalar.muli v49 c80_i32_119
  let v74 : BitVec 32 := Scalar.addi v50 c0_i32_126
  let v75 : Index := Scalar.indexCast v74
  ![v75.toNat]
@[reducible] def k0_t16_loop : Scf.Loop 32 :=
  let c0_i32_74 : BitVec 32 := 0#32
  let c4_i32_75 : BitVec 32 := 4#32
  let v24 : BitVec 32 := Scalar.addi c0_i32_74 c4_i32_75
  let c1_i32_76 : BitVec 32 := 1#32
  ⟨c0_i32_74, v24, c1_i32_76⟩
def k0_off1179 (k0_t16 : Fin k0_t16_loop.trips) : Fin 1 → Nat :=
  let c320_i32_118 : BitVec 32 := 320#32
  let c0_i32_74 : BitVec 32 := 0#32
  let c1_i32_76 : BitVec 32 := 1#32
  let arg13 : BitVec 32 := Scf.iv c0_i32_74 c1_i32_76 k0_t16
  let c16_i32 : BitVec 32 := 16#32
  let v37 : BitVec 32 := Scalar.muli arg13 c16_i32
  let v38 : BitVec 32 := Scalar.addi c320_i32_118 v37
  let v39 : Index := Scalar.indexCast v38
  ![v39.toNat]
def k0_off1180 (k0_t16 : Fin k0_t16_loop.trips) (c0_i32_120 : BitVec 32) : Fin 1 → Nat :=
  let c1600_i32 : BitVec 32 := 1600#32
  let c0_i32_74 : BitVec 32 := 0#32
  let c1_i32_76 : BitVec 32 := 1#32
  let arg13 : BitVec 32 := Scf.iv c0_i32_74 c1_i32_76 k0_t16
  let c80_i32_119 : BitVec 32 := 80#32
  let v42 : BitVec 32 := Scalar.muli arg13 c80_i32_119
  let v43 : BitVec 32 := Scalar.addi c1600_i32 v42
  let v44 : BitVec 32 := Scalar.addi v43 c0_i32_120
  let v45 : Index := Scalar.indexCast v44
  ![v45.toNat]
def k0_off1181 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_131 : BitVec 32 := 16#32
  let v72 : BitVec 32 := Scalar.muli arg13 c16_i32_131
  let c0_i32_132 : BitVec 32 := 0#32
  let v73 : BitVec 32 := Scalar.addi v72 c0_i32_132
  let c0_i32_133 : BitVec 32 := 0#32
  ![v73.toNat, 0]
def k0_off1182 (v75 : BitVec 32) : Fin 2 → Nat :=
  let c0_i32_134 : BitVec 32 := 0#32
  ![v75.toNat, 0]

def k0_chk481 (v75 : BitVec 32) : Prop :=
  (∀ a, (k0_off1182 v75) a + S1x64.size a ≤ S1000000x64.size a)
instance k0_chk481.dec : ∀ (v75 : BitVec 32), Decidable (k0_chk481 v75) := fun v75 => decidable_of_iff' _ (Iff.of_eq (k0_chk481.eq_1 v75))
theorem k0_off1182_inb : ∀ (v75 : BitVec 32) (k0_hw481 : k0_chk481 v75), ∀ a, (k0_off1182 v75) a + S1x64.size a ≤ S1000000x64.size a := fun v75 k0_hw481 => k0_hw481

def k0_off1183 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_131 : BitVec 32 := 16#32
  let v72 : BitVec 32 := Scalar.muli arg13 c16_i32_131
  let c0_i32_132 : BitVec 32 := 0#32
  let v73 : BitVec 32 := Scalar.addi v72 c0_i32_132
  let c0_i32_135 : BitVec 32 := 0#32
  ![v73.toNat, 0]
def k0_off1184 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_131 : BitVec 32 := 16#32
  let v72 : BitVec 32 := Scalar.muli arg13 c16_i32_131
  let c0_i32_132 : BitVec 32 := 0#32
  let v73 : BitVec 32 := Scalar.addi v72 c0_i32_132
  let c5_i32_137 : BitVec 32 := 5#32
  let v86 : BitVec 32 := Scalar.muli v73 c5_i32_137
  let c0_i32_138 : BitVec 32 := 0#32
  let v87 : BitVec 32 := Scalar.addi v86 c0_i32_138
  let c0_i32_139 : BitVec 32 := 0#32
  ![v87.toNat, 0]
def k0_off1185 (v85 : BitVec 32) : Fin 2 → Nat :=
  let c0_i32_140 : BitVec 32 := 0#32
  ![v85.toNat, 0]

def k0_chk482 (v85 : BitVec 32) : Prop :=
  (∀ a, (k0_off1185 v85) a + S1x64.size a ≤ S1000000x64.size a)
instance k0_chk482.dec : ∀ (v85 : BitVec 32), Decidable (k0_chk482 v85) := fun v85 => decidable_of_iff' _ (Iff.of_eq (k0_chk482.eq_1 v85))
theorem k0_off1185_inb : ∀ (v85 : BitVec 32) (k0_hw482 : k0_chk482 v85), ∀ a, (k0_off1185 v85) a + S1x64.size a ≤ S1000000x64.size a := fun v85 k0_hw482 => k0_hw482

def k0_off1186 (k0_t16 : Fin k0_t16_loop.trips) (c0_i32_138 : BitVec 32) : Fin 2 → Nat :=
  let c0_i32_74 : BitVec 32 := 0#32
  let c1_i32_76 : BitVec 32 := 1#32
  let arg13 : BitVec 32 := Scf.iv c0_i32_74 c1_i32_76 k0_t16
  let c16_i32_131 : BitVec 32 := 16#32
  let v72 : BitVec 32 := Scalar.muli arg13 c16_i32_131
  let c0_i32_132 : BitVec 32 := 0#32
  let v73 : BitVec 32 := Scalar.addi v72 c0_i32_132
  let c5_i32_137 : BitVec 32 := 5#32
  let v86 : BitVec 32 := Scalar.muli v73 c5_i32_137
  let v87 : BitVec 32 := Scalar.addi v86 c0_i32_138
  let c0_i32_141 : BitVec 32 := 0#32
  ![v87.toNat, 0]
def k0_off1187 (v97 : BitVec 32) : Fin 2 → Nat :=
  let c0_i32_146 : BitVec 32 := 0#32
  ![v97.toNat, 0]

def k0_chk483 (v97 : BitVec 32) : Prop :=
  (∀ a, (k0_off1187 v97) a + S1x64.size a ≤ S1000000x64.size a)
instance k0_chk483.dec : ∀ (v97 : BitVec 32), Decidable (k0_chk483 v97) := fun v97 => decidable_of_iff' _ (Iff.of_eq (k0_chk483.eq_1 v97))
theorem k0_off1187_inb : ∀ (v97 : BitVec 32) (k0_hw483 : k0_chk483 v97), ∀ a, (k0_off1187 v97) a + S1x64.size a ≤ S1000000x64.size a := fun v97 k0_hw483 => k0_hw483

def k0_off1188 (k0_t16 : Fin k0_t16_loop.trips) (c1_i32_144 : BitVec 32) : Fin 2 → Nat :=
  let c0_i32_74 : BitVec 32 := 0#32
  let c1_i32_76 : BitVec 32 := 1#32
  let arg13 : BitVec 32 := Scf.iv c0_i32_74 c1_i32_76 k0_t16
  let c16_i32_131 : BitVec 32 := 16#32
  let v72 : BitVec 32 := Scalar.muli arg13 c16_i32_131
  let c0_i32_132 : BitVec 32 := 0#32
  let v73 : BitVec 32 := Scalar.addi v72 c0_i32_132
  let c5_i32_143 : BitVec 32 := 5#32
  let v98 : BitVec 32 := Scalar.muli v73 c5_i32_143
  let v99 : BitVec 32 := Scalar.addi v98 c1_i32_144
  let c0_i32_147 : BitVec 32 := 0#32
  ![v99.toNat, 0]
def k0_off1189 (v109 : BitVec 32) : Fin 2 → Nat :=
  let c0_i32_152 : BitVec 32 := 0#32
  ![v109.toNat, 0]

def k0_chk484 (v109 : BitVec 32) : Prop :=
  (∀ a, (k0_off1189 v109) a + S1x64.size a ≤ S1000000x64.size a)
instance k0_chk484.dec : ∀ (v109 : BitVec 32), Decidable (k0_chk484 v109) := fun v109 => decidable_of_iff' _ (Iff.of_eq (k0_chk484.eq_1 v109))
theorem k0_off1189_inb : ∀ (v109 : BitVec 32) (k0_hw484 : k0_chk484 v109), ∀ a, (k0_off1189 v109) a + S1x64.size a ≤ S1000000x64.size a := fun v109 k0_hw484 => k0_hw484

def k0_off1190 (k0_t16 : Fin k0_t16_loop.trips) (c2_i32_150 : BitVec 32) : Fin 2 → Nat :=
  let c0_i32_74 : BitVec 32 := 0#32
  let c1_i32_76 : BitVec 32 := 1#32
  let arg13 : BitVec 32 := Scf.iv c0_i32_74 c1_i32_76 k0_t16
  let c16_i32_131 : BitVec 32 := 16#32
  let v72 : BitVec 32 := Scalar.muli arg13 c16_i32_131
  let c0_i32_132 : BitVec 32 := 0#32
  let v73 : BitVec 32 := Scalar.addi v72 c0_i32_132
  let c5_i32_149 : BitVec 32 := 5#32
  let v110 : BitVec 32 := Scalar.muli v73 c5_i32_149
  let v111 : BitVec 32 := Scalar.addi v110 c2_i32_150
  let c0_i32_153 : BitVec 32 := 0#32
  ![v111.toNat, 0]
def k0_off1191 (v121 : BitVec 32) : Fin 2 → Nat :=
  let c0_i32_157 : BitVec 32 := 0#32
  ![v121.toNat, 0]

def k0_chk485 (v121 : BitVec 32) : Prop :=
  (∀ a, (k0_off1191 v121) a + S1x64.size a ≤ S1000000x64.size a)
instance k0_chk485.dec : ∀ (v121 : BitVec 32), Decidable (k0_chk485 v121) := fun v121 => decidable_of_iff' _ (Iff.of_eq (k0_chk485.eq_1 v121))
theorem k0_off1191_inb : ∀ (v121 : BitVec 32) (k0_hw485 : k0_chk485 v121), ∀ a, (k0_off1191 v121) a + S1x64.size a ≤ S1000000x64.size a := fun v121 k0_hw485 => k0_hw485

def k0_off1192 (k0_t16 : Fin k0_t16_loop.trips) (c3_i32 : BitVec 32) : Fin 2 → Nat :=
  let c0_i32_74 : BitVec 32 := 0#32
  let c1_i32_76 : BitVec 32 := 1#32
  let arg13 : BitVec 32 := Scf.iv c0_i32_74 c1_i32_76 k0_t16
  let c16_i32_131 : BitVec 32 := 16#32
  let v72 : BitVec 32 := Scalar.muli arg13 c16_i32_131
  let c0_i32_132 : BitVec 32 := 0#32
  let v73 : BitVec 32 := Scalar.addi v72 c0_i32_132
  let c5_i32_155 : BitVec 32 := 5#32
  let v122 : BitVec 32 := Scalar.muli v73 c5_i32_155
  let v123 : BitVec 32 := Scalar.addi v122 c3_i32
  let c0_i32_158 : BitVec 32 := 0#32
  ![v123.toNat, 0]
def k0_off1193 (v133 : BitVec 32) : Fin 2 → Nat :=
  let c0_i32_163 : BitVec 32 := 0#32
  ![v133.toNat, 0]

def k0_chk486 (v133 : BitVec 32) : Prop :=
  (∀ a, (k0_off1193 v133) a + S1x64.size a ≤ S1000000x64.size a)
instance k0_chk486.dec : ∀ (v133 : BitVec 32), Decidable (k0_chk486 v133) := fun v133 => decidable_of_iff' _ (Iff.of_eq (k0_chk486.eq_1 v133))
theorem k0_off1193_inb : ∀ (v133 : BitVec 32) (k0_hw486 : k0_chk486 v133), ∀ a, (k0_off1193 v133) a + S1x64.size a ≤ S1000000x64.size a := fun v133 k0_hw486 => k0_hw486

def k0_off1194 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_131 : BitVec 32 := 16#32
  let v72 : BitVec 32 := Scalar.muli arg13 c16_i32_131
  let c0_i32_132 : BitVec 32 := 0#32
  let v73 : BitVec 32 := Scalar.addi v72 c0_i32_132
  let c5_i32_160 : BitVec 32 := 5#32
  let v134 : BitVec 32 := Scalar.muli v73 c5_i32_160
  let c4_i32_161 : BitVec 32 := 4#32
  let v135 : BitVec 32 := Scalar.addi v134 c4_i32_161
  let c0_i32_164 : BitVec 32 := 0#32
  ![v135.toNat, 0]
def k0_off1195 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_166 : BitVec 32 := 16#32
  let v144 : BitVec 32 := Scalar.muli arg13 c16_i32_166
  let c1_i32_167 : BitVec 32 := 1#32
  let v145 : BitVec 32 := Scalar.addi v144 c1_i32_167
  let c0_i32_168 : BitVec 32 := 0#32
  ![v145.toNat, 0]
def k0_off1196 (v147 : BitVec 32) : Fin 2 → Nat :=
  let c0_i32_169 : BitVec 32 := 0#32
  ![v147.toNat, 0]

def k0_chk487 (v147 : BitVec 32) : Prop :=
  (∀ a, (k0_off1196 v147) a + S1x64.size a ≤ S1000000x64.size a)
instance k0_chk487.dec : ∀ (v147 : BitVec 32), Decidable (k0_chk487 v147) := fun v147 => decidable_of_iff' _ (Iff.of_eq (k0_chk487.eq_1 v147))
theorem k0_off1196_inb : ∀ (v147 : BitVec 32) (k0_hw487 : k0_chk487 v147), ∀ a, (k0_off1196 v147) a + S1x64.size a ≤ S1000000x64.size a := fun v147 k0_hw487 => k0_hw487

def k0_off1197 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_166 : BitVec 32 := 16#32
  let v144 : BitVec 32 := Scalar.muli arg13 c16_i32_166
  let c1_i32_167 : BitVec 32 := 1#32
  let v145 : BitVec 32 := Scalar.addi v144 c1_i32_167
  let c0_i32_170 : BitVec 32 := 0#32
  ![v145.toNat, 0]
def k0_off1198 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_166 : BitVec 32 := 16#32
  let v144 : BitVec 32 := Scalar.muli arg13 c16_i32_166
  let c1_i32_167 : BitVec 32 := 1#32
  let v145 : BitVec 32 := Scalar.addi v144 c1_i32_167
  let c5_i32_172 : BitVec 32 := 5#32
  let v158 : BitVec 32 := Scalar.muli v145 c5_i32_172
  let c0_i32_173 : BitVec 32 := 0#32
  let v159 : BitVec 32 := Scalar.addi v158 c0_i32_173
  let c0_i32_174 : BitVec 32 := 0#32
  ![v159.toNat, 0]
def k0_off1199 (v157 : BitVec 32) : Fin 2 → Nat :=
  let c0_i32_175 : BitVec 32 := 0#32
  ![v157.toNat, 0]

def k0_chk488 (v157 : BitVec 32) : Prop :=
  (∀ a, (k0_off1199 v157) a + S1x64.size a ≤ S1000000x64.size a)
instance k0_chk488.dec : ∀ (v157 : BitVec 32), Decidable (k0_chk488 v157) := fun v157 => decidable_of_iff' _ (Iff.of_eq (k0_chk488.eq_1 v157))
theorem k0_off1199_inb : ∀ (v157 : BitVec 32) (k0_hw488 : k0_chk488 v157), ∀ a, (k0_off1199 v157) a + S1x64.size a ≤ S1000000x64.size a := fun v157 k0_hw488 => k0_hw488

def k0_off1200 (k0_t16 : Fin k0_t16_loop.trips) (c0_i32_173 : BitVec 32) : Fin 2 → Nat :=
  let c0_i32_74 : BitVec 32 := 0#32
  let c1_i32_76 : BitVec 32 := 1#32
  let arg13 : BitVec 32 := Scf.iv c0_i32_74 c1_i32_76 k0_t16
  let c16_i32_166 : BitVec 32 := 16#32
  let v144 : BitVec 32 := Scalar.muli arg13 c16_i32_166
  let c1_i32_167 : BitVec 32 := 1#32
  let v145 : BitVec 32 := Scalar.addi v144 c1_i32_167
  let c5_i32_172 : BitVec 32 := 5#32
  let v158 : BitVec 32 := Scalar.muli v145 c5_i32_172
  let v159 : BitVec 32 := Scalar.addi v158 c0_i32_173
  let c0_i32_176 : BitVec 32 := 0#32
  ![v159.toNat, 0]
def k0_off1201 (v169 : BitVec 32) : Fin 2 → Nat :=
  let c0_i32_181 : BitVec 32 := 0#32
  ![v169.toNat, 0]

def k0_chk489 (v169 : BitVec 32) : Prop :=
  (∀ a, (k0_off1201 v169) a + S1x64.size a ≤ S1000000x64.size a)
instance k0_chk489.dec : ∀ (v169 : BitVec 32), Decidable (k0_chk489 v169) := fun v169 => decidable_of_iff' _ (Iff.of_eq (k0_chk489.eq_1 v169))
theorem k0_off1201_inb : ∀ (v169 : BitVec 32) (k0_hw489 : k0_chk489 v169), ∀ a, (k0_off1201 v169) a + S1x64.size a ≤ S1000000x64.size a := fun v169 k0_hw489 => k0_hw489

def k0_off1202 (k0_t16 : Fin k0_t16_loop.trips) (c1_i32_179 : BitVec 32) : Fin 2 → Nat :=
  let c0_i32_74 : BitVec 32 := 0#32
  let c1_i32_76 : BitVec 32 := 1#32
  let arg13 : BitVec 32 := Scf.iv c0_i32_74 c1_i32_76 k0_t16
  let c16_i32_166 : BitVec 32 := 16#32
  let v144 : BitVec 32 := Scalar.muli arg13 c16_i32_166
  let c1_i32_167 : BitVec 32 := 1#32
  let v145 : BitVec 32 := Scalar.addi v144 c1_i32_167
  let c5_i32_178 : BitVec 32 := 5#32
  let v170 : BitVec 32 := Scalar.muli v145 c5_i32_178
  let v171 : BitVec 32 := Scalar.addi v170 c1_i32_179
  let c0_i32_182 : BitVec 32 := 0#32
  ![v171.toNat, 0]
def k0_off1203 (v181 : BitVec 32) : Fin 2 → Nat :=
  let c0_i32_187 : BitVec 32 := 0#32
  ![v181.toNat, 0]

def k0_chk490 (v181 : BitVec 32) : Prop :=
  (∀ a, (k0_off1203 v181) a + S1x64.size a ≤ S1000000x64.size a)
instance k0_chk490.dec : ∀ (v181 : BitVec 32), Decidable (k0_chk490 v181) := fun v181 => decidable_of_iff' _ (Iff.of_eq (k0_chk490.eq_1 v181))
theorem k0_off1203_inb : ∀ (v181 : BitVec 32) (k0_hw490 : k0_chk490 v181), ∀ a, (k0_off1203 v181) a + S1x64.size a ≤ S1000000x64.size a := fun v181 k0_hw490 => k0_hw490

def k0_off1204 (k0_t16 : Fin k0_t16_loop.trips) (c2_i32_185 : BitVec 32) : Fin 2 → Nat :=
  let c0_i32_74 : BitVec 32 := 0#32
  let c1_i32_76 : BitVec 32 := 1#32
  let arg13 : BitVec 32 := Scf.iv c0_i32_74 c1_i32_76 k0_t16
  let c16_i32_166 : BitVec 32 := 16#32
  let v144 : BitVec 32 := Scalar.muli arg13 c16_i32_166
  let c1_i32_167 : BitVec 32 := 1#32
  let v145 : BitVec 32 := Scalar.addi v144 c1_i32_167
  let c5_i32_184 : BitVec 32 := 5#32
  let v182 : BitVec 32 := Scalar.muli v145 c5_i32_184
  let v183 : BitVec 32 := Scalar.addi v182 c2_i32_185
  let c0_i32_188 : BitVec 32 := 0#32
  ![v183.toNat, 0]
def k0_off1205 (v193 : BitVec 32) : Fin 2 → Nat :=
  let c0_i32_193 : BitVec 32 := 0#32
  ![v193.toNat, 0]

def k0_chk491 (v193 : BitVec 32) : Prop :=
  (∀ a, (k0_off1205 v193) a + S1x64.size a ≤ S1000000x64.size a)
instance k0_chk491.dec : ∀ (v193 : BitVec 32), Decidable (k0_chk491 v193) := fun v193 => decidable_of_iff' _ (Iff.of_eq (k0_chk491.eq_1 v193))
theorem k0_off1205_inb : ∀ (v193 : BitVec 32) (k0_hw491 : k0_chk491 v193), ∀ a, (k0_off1205 v193) a + S1x64.size a ≤ S1000000x64.size a := fun v193 k0_hw491 => k0_hw491

def k0_off1206 (k0_t16 : Fin k0_t16_loop.trips) (c3_i32_191 : BitVec 32) : Fin 2 → Nat :=
  let c0_i32_74 : BitVec 32 := 0#32
  let c1_i32_76 : BitVec 32 := 1#32
  let arg13 : BitVec 32 := Scf.iv c0_i32_74 c1_i32_76 k0_t16
  let c16_i32_166 : BitVec 32 := 16#32
  let v144 : BitVec 32 := Scalar.muli arg13 c16_i32_166
  let c1_i32_167 : BitVec 32 := 1#32
  let v145 : BitVec 32 := Scalar.addi v144 c1_i32_167
  let c5_i32_190 : BitVec 32 := 5#32
  let v194 : BitVec 32 := Scalar.muli v145 c5_i32_190
  let v195 : BitVec 32 := Scalar.addi v194 c3_i32_191
  let c0_i32_194 : BitVec 32 := 0#32
  ![v195.toNat, 0]
def k0_off1207 (v205 : BitVec 32) : Fin 2 → Nat :=
  let c0_i32_199 : BitVec 32 := 0#32
  ![v205.toNat, 0]

def k0_chk492 (v205 : BitVec 32) : Prop :=
  (∀ a, (k0_off1207 v205) a + S1x64.size a ≤ S1000000x64.size a)
instance k0_chk492.dec : ∀ (v205 : BitVec 32), Decidable (k0_chk492 v205) := fun v205 => decidable_of_iff' _ (Iff.of_eq (k0_chk492.eq_1 v205))
theorem k0_off1207_inb : ∀ (v205 : BitVec 32) (k0_hw492 : k0_chk492 v205), ∀ a, (k0_off1207 v205) a + S1x64.size a ≤ S1000000x64.size a := fun v205 k0_hw492 => k0_hw492

def k0_off1208 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_166 : BitVec 32 := 16#32
  let v144 : BitVec 32 := Scalar.muli arg13 c16_i32_166
  let c1_i32_167 : BitVec 32 := 1#32
  let v145 : BitVec 32 := Scalar.addi v144 c1_i32_167
  let c5_i32_196 : BitVec 32 := 5#32
  let v206 : BitVec 32 := Scalar.muli v145 c5_i32_196
  let c4_i32_197 : BitVec 32 := 4#32
  let v207 : BitVec 32 := Scalar.addi v206 c4_i32_197
  let c0_i32_200 : BitVec 32 := 0#32
  ![v207.toNat, 0]
def k0_off1209 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_202 : BitVec 32 := 16#32
  let v216 : BitVec 32 := Scalar.muli arg13 c16_i32_202
  let c2_i32_203 : BitVec 32 := 2#32
  let v217 : BitVec 32 := Scalar.addi v216 c2_i32_203
  let c0_i32_204 : BitVec 32 := 0#32
  ![v217.toNat, 0]
def k0_off1210 (v219 : BitVec 32) : Fin 2 → Nat :=
  let c0_i32_205 : BitVec 32 := 0#32
  ![v219.toNat, 0]

def k0_chk493 (v219 : BitVec 32) : Prop :=
  (∀ a, (k0_off1210 v219) a + S1x64.size a ≤ S1000000x64.size a)
instance k0_chk493.dec : ∀ (v219 : BitVec 32), Decidable (k0_chk493 v219) := fun v219 => decidable_of_iff' _ (Iff.of_eq (k0_chk493.eq_1 v219))
theorem k0_off1210_inb : ∀ (v219 : BitVec 32) (k0_hw493 : k0_chk493 v219), ∀ a, (k0_off1210 v219) a + S1x64.size a ≤ S1000000x64.size a := fun v219 k0_hw493 => k0_hw493

def k0_off1211 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_202 : BitVec 32 := 16#32
  let v216 : BitVec 32 := Scalar.muli arg13 c16_i32_202
  let c2_i32_203 : BitVec 32 := 2#32
  let v217 : BitVec 32 := Scalar.addi v216 c2_i32_203
  let c0_i32_206 : BitVec 32 := 0#32
  ![v217.toNat, 0]
def k0_off1212 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_202 : BitVec 32 := 16#32
  let v216 : BitVec 32 := Scalar.muli arg13 c16_i32_202
  let c2_i32_203 : BitVec 32 := 2#32
  let v217 : BitVec 32 := Scalar.addi v216 c2_i32_203
  let c5_i32_208 : BitVec 32 := 5#32
  let v230 : BitVec 32 := Scalar.muli v217 c5_i32_208
  let c0_i32_209 : BitVec 32 := 0#32
  let v231 : BitVec 32 := Scalar.addi v230 c0_i32_209
  let c0_i32_210 : BitVec 32 := 0#32
  ![v231.toNat, 0]
def k0_off1213 (v229 : BitVec 32) : Fin 2 → Nat :=
  let c0_i32_211 : BitVec 32 := 0#32
  ![v229.toNat, 0]

def k0_chk494 (v229 : BitVec 32) : Prop :=
  (∀ a, (k0_off1213 v229) a + S1x64.size a ≤ S1000000x64.size a)
instance k0_chk494.dec : ∀ (v229 : BitVec 32), Decidable (k0_chk494 v229) := fun v229 => decidable_of_iff' _ (Iff.of_eq (k0_chk494.eq_1 v229))
theorem k0_off1213_inb : ∀ (v229 : BitVec 32) (k0_hw494 : k0_chk494 v229), ∀ a, (k0_off1213 v229) a + S1x64.size a ≤ S1000000x64.size a := fun v229 k0_hw494 => k0_hw494

def k0_off1214 (k0_t16 : Fin k0_t16_loop.trips) (c0_i32_209 : BitVec 32) : Fin 2 → Nat :=
  let c0_i32_74 : BitVec 32 := 0#32
  let c1_i32_76 : BitVec 32 := 1#32
  let arg13 : BitVec 32 := Scf.iv c0_i32_74 c1_i32_76 k0_t16
  let c16_i32_202 : BitVec 32 := 16#32
  let v216 : BitVec 32 := Scalar.muli arg13 c16_i32_202
  let c2_i32_203 : BitVec 32 := 2#32
  let v217 : BitVec 32 := Scalar.addi v216 c2_i32_203
  let c5_i32_208 : BitVec 32 := 5#32
  let v230 : BitVec 32 := Scalar.muli v217 c5_i32_208
  let v231 : BitVec 32 := Scalar.addi v230 c0_i32_209
  let c0_i32_212 : BitVec 32 := 0#32
  ![v231.toNat, 0]
def k0_off1215 (v241 : BitVec 32) : Fin 2 → Nat :=
  let c0_i32_217 : BitVec 32 := 0#32
  ![v241.toNat, 0]

def k0_chk495 (v241 : BitVec 32) : Prop :=
  (∀ a, (k0_off1215 v241) a + S1x64.size a ≤ S1000000x64.size a)
instance k0_chk495.dec : ∀ (v241 : BitVec 32), Decidable (k0_chk495 v241) := fun v241 => decidable_of_iff' _ (Iff.of_eq (k0_chk495.eq_1 v241))
theorem k0_off1215_inb : ∀ (v241 : BitVec 32) (k0_hw495 : k0_chk495 v241), ∀ a, (k0_off1215 v241) a + S1x64.size a ≤ S1000000x64.size a := fun v241 k0_hw495 => k0_hw495

def k0_off1216 (k0_t16 : Fin k0_t16_loop.trips) (c1_i32_215 : BitVec 32) : Fin 2 → Nat :=
  let c0_i32_74 : BitVec 32 := 0#32
  let c1_i32_76 : BitVec 32 := 1#32
  let arg13 : BitVec 32 := Scf.iv c0_i32_74 c1_i32_76 k0_t16
  let c16_i32_202 : BitVec 32 := 16#32
  let v216 : BitVec 32 := Scalar.muli arg13 c16_i32_202
  let c2_i32_203 : BitVec 32 := 2#32
  let v217 : BitVec 32 := Scalar.addi v216 c2_i32_203
  let c5_i32_214 : BitVec 32 := 5#32
  let v242 : BitVec 32 := Scalar.muli v217 c5_i32_214
  let v243 : BitVec 32 := Scalar.addi v242 c1_i32_215
  let c0_i32_218 : BitVec 32 := 0#32
  ![v243.toNat, 0]
def k0_off1217 (v253 : BitVec 32) : Fin 2 → Nat :=
  let c0_i32_223 : BitVec 32 := 0#32
  ![v253.toNat, 0]

def k0_chk496 (v253 : BitVec 32) : Prop :=
  (∀ a, (k0_off1217 v253) a + S1x64.size a ≤ S1000000x64.size a)
instance k0_chk496.dec : ∀ (v253 : BitVec 32), Decidable (k0_chk496 v253) := fun v253 => decidable_of_iff' _ (Iff.of_eq (k0_chk496.eq_1 v253))
theorem k0_off1217_inb : ∀ (v253 : BitVec 32) (k0_hw496 : k0_chk496 v253), ∀ a, (k0_off1217 v253) a + S1x64.size a ≤ S1000000x64.size a := fun v253 k0_hw496 => k0_hw496

def k0_off1218 (k0_t16 : Fin k0_t16_loop.trips) (c2_i32_221 : BitVec 32) : Fin 2 → Nat :=
  let c0_i32_74 : BitVec 32 := 0#32
  let c1_i32_76 : BitVec 32 := 1#32
  let arg13 : BitVec 32 := Scf.iv c0_i32_74 c1_i32_76 k0_t16
  let c16_i32_202 : BitVec 32 := 16#32
  let v216 : BitVec 32 := Scalar.muli arg13 c16_i32_202
  let c2_i32_203 : BitVec 32 := 2#32
  let v217 : BitVec 32 := Scalar.addi v216 c2_i32_203
  let c5_i32_220 : BitVec 32 := 5#32
  let v254 : BitVec 32 := Scalar.muli v217 c5_i32_220
  let v255 : BitVec 32 := Scalar.addi v254 c2_i32_221
  let c0_i32_224 : BitVec 32 := 0#32
  ![v255.toNat, 0]
def k0_off1219 (v265 : BitVec 32) : Fin 2 → Nat :=
  let c0_i32_229 : BitVec 32 := 0#32
  ![v265.toNat, 0]

def k0_chk497 (v265 : BitVec 32) : Prop :=
  (∀ a, (k0_off1219 v265) a + S1x64.size a ≤ S1000000x64.size a)
instance k0_chk497.dec : ∀ (v265 : BitVec 32), Decidable (k0_chk497 v265) := fun v265 => decidable_of_iff' _ (Iff.of_eq (k0_chk497.eq_1 v265))
theorem k0_off1219_inb : ∀ (v265 : BitVec 32) (k0_hw497 : k0_chk497 v265), ∀ a, (k0_off1219 v265) a + S1x64.size a ≤ S1000000x64.size a := fun v265 k0_hw497 => k0_hw497

def k0_off1220 (k0_t16 : Fin k0_t16_loop.trips) (c3_i32_227 : BitVec 32) : Fin 2 → Nat :=
  let c0_i32_74 : BitVec 32 := 0#32
  let c1_i32_76 : BitVec 32 := 1#32
  let arg13 : BitVec 32 := Scf.iv c0_i32_74 c1_i32_76 k0_t16
  let c16_i32_202 : BitVec 32 := 16#32
  let v216 : BitVec 32 := Scalar.muli arg13 c16_i32_202
  let c2_i32_203 : BitVec 32 := 2#32
  let v217 : BitVec 32 := Scalar.addi v216 c2_i32_203
  let c5_i32_226 : BitVec 32 := 5#32
  let v266 : BitVec 32 := Scalar.muli v217 c5_i32_226
  let v267 : BitVec 32 := Scalar.addi v266 c3_i32_227
  let c0_i32_230 : BitVec 32 := 0#32
  ![v267.toNat, 0]
def k0_off1221 (v277 : BitVec 32) : Fin 2 → Nat :=
  let c0_i32_235 : BitVec 32 := 0#32
  ![v277.toNat, 0]

def k0_chk498 (v277 : BitVec 32) : Prop :=
  (∀ a, (k0_off1221 v277) a + S1x64.size a ≤ S1000000x64.size a)
instance k0_chk498.dec : ∀ (v277 : BitVec 32), Decidable (k0_chk498 v277) := fun v277 => decidable_of_iff' _ (Iff.of_eq (k0_chk498.eq_1 v277))
theorem k0_off1221_inb : ∀ (v277 : BitVec 32) (k0_hw498 : k0_chk498 v277), ∀ a, (k0_off1221 v277) a + S1x64.size a ≤ S1000000x64.size a := fun v277 k0_hw498 => k0_hw498

def k0_off1222 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_202 : BitVec 32 := 16#32
  let v216 : BitVec 32 := Scalar.muli arg13 c16_i32_202
  let c2_i32_203 : BitVec 32 := 2#32
  let v217 : BitVec 32 := Scalar.addi v216 c2_i32_203
  let c5_i32_232 : BitVec 32 := 5#32
  let v278 : BitVec 32 := Scalar.muli v217 c5_i32_232
  let c4_i32_233 : BitVec 32 := 4#32
  let v279 : BitVec 32 := Scalar.addi v278 c4_i32_233
  let c0_i32_236 : BitVec 32 := 0#32
  ![v279.toNat, 0]
def k0_off1223 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_238 : BitVec 32 := 16#32
  let v288 : BitVec 32 := Scalar.muli arg13 c16_i32_238
  let c3_i32_239 : BitVec 32 := 3#32
  let v289 : BitVec 32 := Scalar.addi v288 c3_i32_239
  let c0_i32_240 : BitVec 32 := 0#32
  ![v289.toNat, 0]
def k0_off1224 (v291 : BitVec 32) : Fin 2 → Nat :=
  let c0_i32_241 : BitVec 32 := 0#32
  ![v291.toNat, 0]

def k0_chk499 (v291 : BitVec 32) : Prop :=
  (∀ a, (k0_off1224 v291) a + S1x64.size a ≤ S1000000x64.size a)
instance k0_chk499.dec : ∀ (v291 : BitVec 32), Decidable (k0_chk499 v291) := fun v291 => decidable_of_iff' _ (Iff.of_eq (k0_chk499.eq_1 v291))
theorem k0_off1224_inb : ∀ (v291 : BitVec 32) (k0_hw499 : k0_chk499 v291), ∀ a, (k0_off1224 v291) a + S1x64.size a ≤ S1000000x64.size a := fun v291 k0_hw499 => k0_hw499

def k0_off1225 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_238 : BitVec 32 := 16#32
  let v288 : BitVec 32 := Scalar.muli arg13 c16_i32_238
  let c3_i32_239 : BitVec 32 := 3#32
  let v289 : BitVec 32 := Scalar.addi v288 c3_i32_239
  let c0_i32_242 : BitVec 32 := 0#32
  ![v289.toNat, 0]
def k0_off1226 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_238 : BitVec 32 := 16#32
  let v288 : BitVec 32 := Scalar.muli arg13 c16_i32_238
  let c3_i32_239 : BitVec 32 := 3#32
  let v289 : BitVec 32 := Scalar.addi v288 c3_i32_239
  let c5_i32_244 : BitVec 32 := 5#32
  let v302 : BitVec 32 := Scalar.muli v289 c5_i32_244
  let c0_i32_245 : BitVec 32 := 0#32
  let v303 : BitVec 32 := Scalar.addi v302 c0_i32_245
  let c0_i32_246 : BitVec 32 := 0#32
  ![v303.toNat, 0]
def k0_off1227 (v301 : BitVec 32) : Fin 2 → Nat :=
  let c0_i32_247 : BitVec 32 := 0#32
  ![v301.toNat, 0]

def k0_chk500 (v301 : BitVec 32) : Prop :=
  (∀ a, (k0_off1227 v301) a + S1x64.size a ≤ S1000000x64.size a)
instance k0_chk500.dec : ∀ (v301 : BitVec 32), Decidable (k0_chk500 v301) := fun v301 => decidable_of_iff' _ (Iff.of_eq (k0_chk500.eq_1 v301))
theorem k0_off1227_inb : ∀ (v301 : BitVec 32) (k0_hw500 : k0_chk500 v301), ∀ a, (k0_off1227 v301) a + S1x64.size a ≤ S1000000x64.size a := fun v301 k0_hw500 => k0_hw500

def k0_off1228 (k0_t16 : Fin k0_t16_loop.trips) (c0_i32_245 : BitVec 32) : Fin 2 → Nat :=
  let c0_i32_74 : BitVec 32 := 0#32
  let c1_i32_76 : BitVec 32 := 1#32
  let arg13 : BitVec 32 := Scf.iv c0_i32_74 c1_i32_76 k0_t16
  let c16_i32_238 : BitVec 32 := 16#32
  let v288 : BitVec 32 := Scalar.muli arg13 c16_i32_238
  let c3_i32_239 : BitVec 32 := 3#32
  let v289 : BitVec 32 := Scalar.addi v288 c3_i32_239
  let c5_i32_244 : BitVec 32 := 5#32
  let v302 : BitVec 32 := Scalar.muli v289 c5_i32_244
  let v303 : BitVec 32 := Scalar.addi v302 c0_i32_245
  let c0_i32_248 : BitVec 32 := 0#32
  ![v303.toNat, 0]
def k0_off1229 (v313 : BitVec 32) : Fin 2 → Nat :=
  let c0_i32_253 : BitVec 32 := 0#32
  ![v313.toNat, 0]

def k0_chk501 (v313 : BitVec 32) : Prop :=
  (∀ a, (k0_off1229 v313) a + S1x64.size a ≤ S1000000x64.size a)
instance k0_chk501.dec : ∀ (v313 : BitVec 32), Decidable (k0_chk501 v313) := fun v313 => decidable_of_iff' _ (Iff.of_eq (k0_chk501.eq_1 v313))
theorem k0_off1229_inb : ∀ (v313 : BitVec 32) (k0_hw501 : k0_chk501 v313), ∀ a, (k0_off1229 v313) a + S1x64.size a ≤ S1000000x64.size a := fun v313 k0_hw501 => k0_hw501

def k0_off1230 (k0_t16 : Fin k0_t16_loop.trips) (c1_i32_251 : BitVec 32) : Fin 2 → Nat :=
  let c0_i32_74 : BitVec 32 := 0#32
  let c1_i32_76 : BitVec 32 := 1#32
  let arg13 : BitVec 32 := Scf.iv c0_i32_74 c1_i32_76 k0_t16
  let c16_i32_238 : BitVec 32 := 16#32
  let v288 : BitVec 32 := Scalar.muli arg13 c16_i32_238
  let c3_i32_239 : BitVec 32 := 3#32
  let v289 : BitVec 32 := Scalar.addi v288 c3_i32_239
  let c5_i32_250 : BitVec 32 := 5#32
  let v314 : BitVec 32 := Scalar.muli v289 c5_i32_250
  let v315 : BitVec 32 := Scalar.addi v314 c1_i32_251
  let c0_i32_254 : BitVec 32 := 0#32
  ![v315.toNat, 0]
def k0_off1231 (v325 : BitVec 32) : Fin 2 → Nat :=
  let c0_i32_259 : BitVec 32 := 0#32
  ![v325.toNat, 0]

def k0_chk502 (v325 : BitVec 32) : Prop :=
  (∀ a, (k0_off1231 v325) a + S1x64.size a ≤ S1000000x64.size a)
instance k0_chk502.dec : ∀ (v325 : BitVec 32), Decidable (k0_chk502 v325) := fun v325 => decidable_of_iff' _ (Iff.of_eq (k0_chk502.eq_1 v325))
theorem k0_off1231_inb : ∀ (v325 : BitVec 32) (k0_hw502 : k0_chk502 v325), ∀ a, (k0_off1231 v325) a + S1x64.size a ≤ S1000000x64.size a := fun v325 k0_hw502 => k0_hw502

def k0_off1232 (k0_t16 : Fin k0_t16_loop.trips) (c2_i32_257 : BitVec 32) : Fin 2 → Nat :=
  let c0_i32_74 : BitVec 32 := 0#32
  let c1_i32_76 : BitVec 32 := 1#32
  let arg13 : BitVec 32 := Scf.iv c0_i32_74 c1_i32_76 k0_t16
  let c16_i32_238 : BitVec 32 := 16#32
  let v288 : BitVec 32 := Scalar.muli arg13 c16_i32_238
  let c3_i32_239 : BitVec 32 := 3#32
  let v289 : BitVec 32 := Scalar.addi v288 c3_i32_239
  let c5_i32_256 : BitVec 32 := 5#32
  let v326 : BitVec 32 := Scalar.muli v289 c5_i32_256
  let v327 : BitVec 32 := Scalar.addi v326 c2_i32_257
  let c0_i32_260 : BitVec 32 := 0#32
  ![v327.toNat, 0]
def k0_off1233 (v337 : BitVec 32) : Fin 2 → Nat :=
  let c0_i32_265 : BitVec 32 := 0#32
  ![v337.toNat, 0]

def k0_chk503 (v337 : BitVec 32) : Prop :=
  (∀ a, (k0_off1233 v337) a + S1x64.size a ≤ S1000000x64.size a)
instance k0_chk503.dec : ∀ (v337 : BitVec 32), Decidable (k0_chk503 v337) := fun v337 => decidable_of_iff' _ (Iff.of_eq (k0_chk503.eq_1 v337))
theorem k0_off1233_inb : ∀ (v337 : BitVec 32) (k0_hw503 : k0_chk503 v337), ∀ a, (k0_off1233 v337) a + S1x64.size a ≤ S1000000x64.size a := fun v337 k0_hw503 => k0_hw503

def k0_off1234 (k0_t16 : Fin k0_t16_loop.trips) (c3_i32_263 : BitVec 32) : Fin 2 → Nat :=
  let c0_i32_74 : BitVec 32 := 0#32
  let c1_i32_76 : BitVec 32 := 1#32
  let arg13 : BitVec 32 := Scf.iv c0_i32_74 c1_i32_76 k0_t16
  let c16_i32_238 : BitVec 32 := 16#32
  let v288 : BitVec 32 := Scalar.muli arg13 c16_i32_238
  let c3_i32_239 : BitVec 32 := 3#32
  let v289 : BitVec 32 := Scalar.addi v288 c3_i32_239
  let c5_i32_262 : BitVec 32 := 5#32
  let v338 : BitVec 32 := Scalar.muli v289 c5_i32_262
  let v339 : BitVec 32 := Scalar.addi v338 c3_i32_263
  let c0_i32_266 : BitVec 32 := 0#32
  ![v339.toNat, 0]
def k0_off1235 (v349 : BitVec 32) : Fin 2 → Nat :=
  let c0_i32_271 : BitVec 32 := 0#32
  ![v349.toNat, 0]

def k0_chk504 (v349 : BitVec 32) : Prop :=
  (∀ a, (k0_off1235 v349) a + S1x64.size a ≤ S1000000x64.size a)
instance k0_chk504.dec : ∀ (v349 : BitVec 32), Decidable (k0_chk504 v349) := fun v349 => decidable_of_iff' _ (Iff.of_eq (k0_chk504.eq_1 v349))
theorem k0_off1235_inb : ∀ (v349 : BitVec 32) (k0_hw504 : k0_chk504 v349), ∀ a, (k0_off1235 v349) a + S1x64.size a ≤ S1000000x64.size a := fun v349 k0_hw504 => k0_hw504

def k0_off1236 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_238 : BitVec 32 := 16#32
  let v288 : BitVec 32 := Scalar.muli arg13 c16_i32_238
  let c3_i32_239 : BitVec 32 := 3#32
  let v289 : BitVec 32 := Scalar.addi v288 c3_i32_239
  let c5_i32_268 : BitVec 32 := 5#32
  let v350 : BitVec 32 := Scalar.muli v289 c5_i32_268
  let c4_i32_269 : BitVec 32 := 4#32
  let v351 : BitVec 32 := Scalar.addi v350 c4_i32_269
  let c0_i32_272 : BitVec 32 := 0#32
  ![v351.toNat, 0]
def k0_off1237 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_274 : BitVec 32 := 16#32
  let v360 : BitVec 32 := Scalar.muli arg13 c16_i32_274
  let c4_i32_275 : BitVec 32 := 4#32
  let v361 : BitVec 32 := Scalar.addi v360 c4_i32_275
  let c0_i32_276 : BitVec 32 := 0#32
  ![v361.toNat, 0]
def k0_off1238 (v363 : BitVec 32) : Fin 2 → Nat :=
  let c0_i32_277 : BitVec 32 := 0#32
  ![v363.toNat, 0]

def k0_chk505 (v363 : BitVec 32) : Prop :=
  (∀ a, (k0_off1238 v363) a + S1x64.size a ≤ S1000000x64.size a)
instance k0_chk505.dec : ∀ (v363 : BitVec 32), Decidable (k0_chk505 v363) := fun v363 => decidable_of_iff' _ (Iff.of_eq (k0_chk505.eq_1 v363))
theorem k0_off1238_inb : ∀ (v363 : BitVec 32) (k0_hw505 : k0_chk505 v363), ∀ a, (k0_off1238 v363) a + S1x64.size a ≤ S1000000x64.size a := fun v363 k0_hw505 => k0_hw505

def k0_off1239 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_274 : BitVec 32 := 16#32
  let v360 : BitVec 32 := Scalar.muli arg13 c16_i32_274
  let c4_i32_275 : BitVec 32 := 4#32
  let v361 : BitVec 32 := Scalar.addi v360 c4_i32_275
  let c0_i32_278 : BitVec 32 := 0#32
  ![v361.toNat, 0]
def k0_off1240 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_274 : BitVec 32 := 16#32
  let v360 : BitVec 32 := Scalar.muli arg13 c16_i32_274
  let c4_i32_275 : BitVec 32 := 4#32
  let v361 : BitVec 32 := Scalar.addi v360 c4_i32_275
  let c5_i32_280 : BitVec 32 := 5#32
  let v374 : BitVec 32 := Scalar.muli v361 c5_i32_280
  let c0_i32_281 : BitVec 32 := 0#32
  let v375 : BitVec 32 := Scalar.addi v374 c0_i32_281
  let c0_i32_282 : BitVec 32 := 0#32
  ![v375.toNat, 0]
def k0_off1241 (v373 : BitVec 32) : Fin 2 → Nat :=
  let c0_i32_283 : BitVec 32 := 0#32
  ![v373.toNat, 0]

def k0_chk506 (v373 : BitVec 32) : Prop :=
  (∀ a, (k0_off1241 v373) a + S1x64.size a ≤ S1000000x64.size a)
instance k0_chk506.dec : ∀ (v373 : BitVec 32), Decidable (k0_chk506 v373) := fun v373 => decidable_of_iff' _ (Iff.of_eq (k0_chk506.eq_1 v373))
theorem k0_off1241_inb : ∀ (v373 : BitVec 32) (k0_hw506 : k0_chk506 v373), ∀ a, (k0_off1241 v373) a + S1x64.size a ≤ S1000000x64.size a := fun v373 k0_hw506 => k0_hw506

def k0_off1242 (k0_t16 : Fin k0_t16_loop.trips) (c0_i32_281 : BitVec 32) : Fin 2 → Nat :=
  let c0_i32_74 : BitVec 32 := 0#32
  let c1_i32_76 : BitVec 32 := 1#32
  let arg13 : BitVec 32 := Scf.iv c0_i32_74 c1_i32_76 k0_t16
  let c16_i32_274 : BitVec 32 := 16#32
  let v360 : BitVec 32 := Scalar.muli arg13 c16_i32_274
  let c4_i32_275 : BitVec 32 := 4#32
  let v361 : BitVec 32 := Scalar.addi v360 c4_i32_275
  let c5_i32_280 : BitVec 32 := 5#32
  let v374 : BitVec 32 := Scalar.muli v361 c5_i32_280
  let v375 : BitVec 32 := Scalar.addi v374 c0_i32_281
  let c0_i32_284 : BitVec 32 := 0#32
  ![v375.toNat, 0]
def k0_off1243 (v385 : BitVec 32) : Fin 2 → Nat :=
  let c0_i32_289 : BitVec 32 := 0#32
  ![v385.toNat, 0]

def k0_chk507 (v385 : BitVec 32) : Prop :=
  (∀ a, (k0_off1243 v385) a + S1x64.size a ≤ S1000000x64.size a)
instance k0_chk507.dec : ∀ (v385 : BitVec 32), Decidable (k0_chk507 v385) := fun v385 => decidable_of_iff' _ (Iff.of_eq (k0_chk507.eq_1 v385))
theorem k0_off1243_inb : ∀ (v385 : BitVec 32) (k0_hw507 : k0_chk507 v385), ∀ a, (k0_off1243 v385) a + S1x64.size a ≤ S1000000x64.size a := fun v385 k0_hw507 => k0_hw507

def k0_off1244 (k0_t16 : Fin k0_t16_loop.trips) (c1_i32_287 : BitVec 32) : Fin 2 → Nat :=
  let c0_i32_74 : BitVec 32 := 0#32
  let c1_i32_76 : BitVec 32 := 1#32
  let arg13 : BitVec 32 := Scf.iv c0_i32_74 c1_i32_76 k0_t16
  let c16_i32_274 : BitVec 32 := 16#32
  let v360 : BitVec 32 := Scalar.muli arg13 c16_i32_274
  let c4_i32_275 : BitVec 32 := 4#32
  let v361 : BitVec 32 := Scalar.addi v360 c4_i32_275
  let c5_i32_286 : BitVec 32 := 5#32
  let v386 : BitVec 32 := Scalar.muli v361 c5_i32_286
  let v387 : BitVec 32 := Scalar.addi v386 c1_i32_287
  let c0_i32_290 : BitVec 32 := 0#32
  ![v387.toNat, 0]
def k0_off1245 (v397 : BitVec 32) : Fin 2 → Nat :=
  let c0_i32_295 : BitVec 32 := 0#32
  ![v397.toNat, 0]

def k0_chk508 (v397 : BitVec 32) : Prop :=
  (∀ a, (k0_off1245 v397) a + S1x64.size a ≤ S1000000x64.size a)
instance k0_chk508.dec : ∀ (v397 : BitVec 32), Decidable (k0_chk508 v397) := fun v397 => decidable_of_iff' _ (Iff.of_eq (k0_chk508.eq_1 v397))
theorem k0_off1245_inb : ∀ (v397 : BitVec 32) (k0_hw508 : k0_chk508 v397), ∀ a, (k0_off1245 v397) a + S1x64.size a ≤ S1000000x64.size a := fun v397 k0_hw508 => k0_hw508

def k0_off1246 (k0_t16 : Fin k0_t16_loop.trips) (c2_i32_293 : BitVec 32) : Fin 2 → Nat :=
  let c0_i32_74 : BitVec 32 := 0#32
  let c1_i32_76 : BitVec 32 := 1#32
  let arg13 : BitVec 32 := Scf.iv c0_i32_74 c1_i32_76 k0_t16
  let c16_i32_274 : BitVec 32 := 16#32
  let v360 : BitVec 32 := Scalar.muli arg13 c16_i32_274
  let c4_i32_275 : BitVec 32 := 4#32
  let v361 : BitVec 32 := Scalar.addi v360 c4_i32_275
  let c5_i32_292 : BitVec 32 := 5#32
  let v398 : BitVec 32 := Scalar.muli v361 c5_i32_292
  let v399 : BitVec 32 := Scalar.addi v398 c2_i32_293
  let c0_i32_296 : BitVec 32 := 0#32
  ![v399.toNat, 0]
def k0_off1247 (v409 : BitVec 32) : Fin 2 → Nat :=
  let c0_i32_301 : BitVec 32 := 0#32
  ![v409.toNat, 0]

def k0_chk509 (v409 : BitVec 32) : Prop :=
  (∀ a, (k0_off1247 v409) a + S1x64.size a ≤ S1000000x64.size a)
instance k0_chk509.dec : ∀ (v409 : BitVec 32), Decidable (k0_chk509 v409) := fun v409 => decidable_of_iff' _ (Iff.of_eq (k0_chk509.eq_1 v409))
theorem k0_off1247_inb : ∀ (v409 : BitVec 32) (k0_hw509 : k0_chk509 v409), ∀ a, (k0_off1247 v409) a + S1x64.size a ≤ S1000000x64.size a := fun v409 k0_hw509 => k0_hw509

def k0_off1248 (k0_t16 : Fin k0_t16_loop.trips) (c3_i32_299 : BitVec 32) : Fin 2 → Nat :=
  let c0_i32_74 : BitVec 32 := 0#32
  let c1_i32_76 : BitVec 32 := 1#32
  let arg13 : BitVec 32 := Scf.iv c0_i32_74 c1_i32_76 k0_t16
  let c16_i32_274 : BitVec 32 := 16#32
  let v360 : BitVec 32 := Scalar.muli arg13 c16_i32_274
  let c4_i32_275 : BitVec 32 := 4#32
  let v361 : BitVec 32 := Scalar.addi v360 c4_i32_275
  let c5_i32_298 : BitVec 32 := 5#32
  let v410 : BitVec 32 := Scalar.muli v361 c5_i32_298
  let v411 : BitVec 32 := Scalar.addi v410 c3_i32_299
  let c0_i32_302 : BitVec 32 := 0#32
  ![v411.toNat, 0]
def k0_off1249 (v421 : BitVec 32) : Fin 2 → Nat :=
  let c0_i32_307 : BitVec 32 := 0#32
  ![v421.toNat, 0]

def k0_chk510 (v421 : BitVec 32) : Prop :=
  (∀ a, (k0_off1249 v421) a + S1x64.size a ≤ S1000000x64.size a)
instance k0_chk510.dec : ∀ (v421 : BitVec 32), Decidable (k0_chk510 v421) := fun v421 => decidable_of_iff' _ (Iff.of_eq (k0_chk510.eq_1 v421))
theorem k0_off1249_inb : ∀ (v421 : BitVec 32) (k0_hw510 : k0_chk510 v421), ∀ a, (k0_off1249 v421) a + S1x64.size a ≤ S1000000x64.size a := fun v421 k0_hw510 => k0_hw510

def k0_off1250 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_274 : BitVec 32 := 16#32
  let v360 : BitVec 32 := Scalar.muli arg13 c16_i32_274
  let c4_i32_275 : BitVec 32 := 4#32
  let v361 : BitVec 32 := Scalar.addi v360 c4_i32_275
  let c5_i32_304 : BitVec 32 := 5#32
  let v422 : BitVec 32 := Scalar.muli v361 c5_i32_304
  let c4_i32_305 : BitVec 32 := 4#32
  let v423 : BitVec 32 := Scalar.addi v422 c4_i32_305
  let c0_i32_308 : BitVec 32 := 0#32
  ![v423.toNat, 0]
def k0_off1251 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_310 : BitVec 32 := 16#32
  let v432 : BitVec 32 := Scalar.muli arg13 c16_i32_310
  let c5_i32_311 : BitVec 32 := 5#32
  let v433 : BitVec 32 := Scalar.addi v432 c5_i32_311
  let c0_i32_312 : BitVec 32 := 0#32
  ![v433.toNat, 0]
def k0_off1252 (v435 : BitVec 32) : Fin 2 → Nat :=
  let c0_i32_313 : BitVec 32 := 0#32
  ![v435.toNat, 0]

def k0_chk511 (v435 : BitVec 32) : Prop :=
  (∀ a, (k0_off1252 v435) a + S1x64.size a ≤ S1000000x64.size a)
instance k0_chk511.dec : ∀ (v435 : BitVec 32), Decidable (k0_chk511 v435) := fun v435 => decidable_of_iff' _ (Iff.of_eq (k0_chk511.eq_1 v435))
theorem k0_off1252_inb : ∀ (v435 : BitVec 32) (k0_hw511 : k0_chk511 v435), ∀ a, (k0_off1252 v435) a + S1x64.size a ≤ S1000000x64.size a := fun v435 k0_hw511 => k0_hw511

def k0_off1253 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_310 : BitVec 32 := 16#32
  let v432 : BitVec 32 := Scalar.muli arg13 c16_i32_310
  let c5_i32_311 : BitVec 32 := 5#32
  let v433 : BitVec 32 := Scalar.addi v432 c5_i32_311
  let c0_i32_314 : BitVec 32 := 0#32
  ![v433.toNat, 0]
def k0_off1254 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_310 : BitVec 32 := 16#32
  let v432 : BitVec 32 := Scalar.muli arg13 c16_i32_310
  let c5_i32_311 : BitVec 32 := 5#32
  let v433 : BitVec 32 := Scalar.addi v432 c5_i32_311
  let c5_i32_316 : BitVec 32 := 5#32
  let v446 : BitVec 32 := Scalar.muli v433 c5_i32_316
  let c0_i32_317 : BitVec 32 := 0#32
  let v447 : BitVec 32 := Scalar.addi v446 c0_i32_317
  let c0_i32_318 : BitVec 32 := 0#32
  ![v447.toNat, 0]
def k0_off1255 (v445 : BitVec 32) : Fin 2 → Nat :=
  let c0_i32_319 : BitVec 32 := 0#32
  ![v445.toNat, 0]

def k0_chk512 (v445 : BitVec 32) : Prop :=
  (∀ a, (k0_off1255 v445) a + S1x64.size a ≤ S1000000x64.size a)
instance k0_chk512.dec : ∀ (v445 : BitVec 32), Decidable (k0_chk512 v445) := fun v445 => decidable_of_iff' _ (Iff.of_eq (k0_chk512.eq_1 v445))
theorem k0_off1255_inb : ∀ (v445 : BitVec 32) (k0_hw512 : k0_chk512 v445), ∀ a, (k0_off1255 v445) a + S1x64.size a ≤ S1000000x64.size a := fun v445 k0_hw512 => k0_hw512

def k0_off1256 (k0_t16 : Fin k0_t16_loop.trips) (c0_i32_317 : BitVec 32) : Fin 2 → Nat :=
  let c0_i32_74 : BitVec 32 := 0#32
  let c1_i32_76 : BitVec 32 := 1#32
  let arg13 : BitVec 32 := Scf.iv c0_i32_74 c1_i32_76 k0_t16
  let c16_i32_310 : BitVec 32 := 16#32
  let v432 : BitVec 32 := Scalar.muli arg13 c16_i32_310
  let c5_i32_311 : BitVec 32 := 5#32
  let v433 : BitVec 32 := Scalar.addi v432 c5_i32_311
  let c5_i32_316 : BitVec 32 := 5#32
  let v446 : BitVec 32 := Scalar.muli v433 c5_i32_316
  let v447 : BitVec 32 := Scalar.addi v446 c0_i32_317
  let c0_i32_320 : BitVec 32 := 0#32
  ![v447.toNat, 0]
def k0_off1257 (v457 : BitVec 32) : Fin 2 → Nat :=
  let c0_i32_325 : BitVec 32 := 0#32
  ![v457.toNat, 0]

def k0_chk513 (v457 : BitVec 32) : Prop :=
  (∀ a, (k0_off1257 v457) a + S1x64.size a ≤ S1000000x64.size a)
instance k0_chk513.dec : ∀ (v457 : BitVec 32), Decidable (k0_chk513 v457) := fun v457 => decidable_of_iff' _ (Iff.of_eq (k0_chk513.eq_1 v457))
theorem k0_off1257_inb : ∀ (v457 : BitVec 32) (k0_hw513 : k0_chk513 v457), ∀ a, (k0_off1257 v457) a + S1x64.size a ≤ S1000000x64.size a := fun v457 k0_hw513 => k0_hw513

def k0_off1258 (k0_t16 : Fin k0_t16_loop.trips) (c1_i32_323 : BitVec 32) : Fin 2 → Nat :=
  let c0_i32_74 : BitVec 32 := 0#32
  let c1_i32_76 : BitVec 32 := 1#32
  let arg13 : BitVec 32 := Scf.iv c0_i32_74 c1_i32_76 k0_t16
  let c16_i32_310 : BitVec 32 := 16#32
  let v432 : BitVec 32 := Scalar.muli arg13 c16_i32_310
  let c5_i32_311 : BitVec 32 := 5#32
  let v433 : BitVec 32 := Scalar.addi v432 c5_i32_311
  let c5_i32_322 : BitVec 32 := 5#32
  let v458 : BitVec 32 := Scalar.muli v433 c5_i32_322
  let v459 : BitVec 32 := Scalar.addi v458 c1_i32_323
  let c0_i32_326 : BitVec 32 := 0#32
  ![v459.toNat, 0]
def k0_off1259 (v469 : BitVec 32) : Fin 2 → Nat :=
  let c0_i32_331 : BitVec 32 := 0#32
  ![v469.toNat, 0]

def k0_chk514 (v469 : BitVec 32) : Prop :=
  (∀ a, (k0_off1259 v469) a + S1x64.size a ≤ S1000000x64.size a)
instance k0_chk514.dec : ∀ (v469 : BitVec 32), Decidable (k0_chk514 v469) := fun v469 => decidable_of_iff' _ (Iff.of_eq (k0_chk514.eq_1 v469))
theorem k0_off1259_inb : ∀ (v469 : BitVec 32) (k0_hw514 : k0_chk514 v469), ∀ a, (k0_off1259 v469) a + S1x64.size a ≤ S1000000x64.size a := fun v469 k0_hw514 => k0_hw514

def k0_off1260 (k0_t16 : Fin k0_t16_loop.trips) (c2_i32_329 : BitVec 32) : Fin 2 → Nat :=
  let c0_i32_74 : BitVec 32 := 0#32
  let c1_i32_76 : BitVec 32 := 1#32
  let arg13 : BitVec 32 := Scf.iv c0_i32_74 c1_i32_76 k0_t16
  let c16_i32_310 : BitVec 32 := 16#32
  let v432 : BitVec 32 := Scalar.muli arg13 c16_i32_310
  let c5_i32_311 : BitVec 32 := 5#32
  let v433 : BitVec 32 := Scalar.addi v432 c5_i32_311
  let c5_i32_328 : BitVec 32 := 5#32
  let v470 : BitVec 32 := Scalar.muli v433 c5_i32_328
  let v471 : BitVec 32 := Scalar.addi v470 c2_i32_329
  let c0_i32_332 : BitVec 32 := 0#32
  ![v471.toNat, 0]
def k0_off1261 (v481 : BitVec 32) : Fin 2 → Nat :=
  let c0_i32_337 : BitVec 32 := 0#32
  ![v481.toNat, 0]

def k0_chk515 (v481 : BitVec 32) : Prop :=
  (∀ a, (k0_off1261 v481) a + S1x64.size a ≤ S1000000x64.size a)
instance k0_chk515.dec : ∀ (v481 : BitVec 32), Decidable (k0_chk515 v481) := fun v481 => decidable_of_iff' _ (Iff.of_eq (k0_chk515.eq_1 v481))
theorem k0_off1261_inb : ∀ (v481 : BitVec 32) (k0_hw515 : k0_chk515 v481), ∀ a, (k0_off1261 v481) a + S1x64.size a ≤ S1000000x64.size a := fun v481 k0_hw515 => k0_hw515

def k0_off1262 (k0_t16 : Fin k0_t16_loop.trips) (c3_i32_335 : BitVec 32) : Fin 2 → Nat :=
  let c0_i32_74 : BitVec 32 := 0#32
  let c1_i32_76 : BitVec 32 := 1#32
  let arg13 : BitVec 32 := Scf.iv c0_i32_74 c1_i32_76 k0_t16
  let c16_i32_310 : BitVec 32 := 16#32
  let v432 : BitVec 32 := Scalar.muli arg13 c16_i32_310
  let c5_i32_311 : BitVec 32 := 5#32
  let v433 : BitVec 32 := Scalar.addi v432 c5_i32_311
  let c5_i32_334 : BitVec 32 := 5#32
  let v482 : BitVec 32 := Scalar.muli v433 c5_i32_334
  let v483 : BitVec 32 := Scalar.addi v482 c3_i32_335
  let c0_i32_338 : BitVec 32 := 0#32
  ![v483.toNat, 0]
def k0_off1263 (v493 : BitVec 32) : Fin 2 → Nat :=
  let c0_i32_343 : BitVec 32 := 0#32
  ![v493.toNat, 0]

def k0_chk516 (v493 : BitVec 32) : Prop :=
  (∀ a, (k0_off1263 v493) a + S1x64.size a ≤ S1000000x64.size a)
instance k0_chk516.dec : ∀ (v493 : BitVec 32), Decidable (k0_chk516 v493) := fun v493 => decidable_of_iff' _ (Iff.of_eq (k0_chk516.eq_1 v493))
theorem k0_off1263_inb : ∀ (v493 : BitVec 32) (k0_hw516 : k0_chk516 v493), ∀ a, (k0_off1263 v493) a + S1x64.size a ≤ S1000000x64.size a := fun v493 k0_hw516 => k0_hw516

def k0_off1264 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_310 : BitVec 32 := 16#32
  let v432 : BitVec 32 := Scalar.muli arg13 c16_i32_310
  let c5_i32_311 : BitVec 32 := 5#32
  let v433 : BitVec 32 := Scalar.addi v432 c5_i32_311
  let c5_i32_340 : BitVec 32 := 5#32
  let v494 : BitVec 32 := Scalar.muli v433 c5_i32_340
  let c4_i32_341 : BitVec 32 := 4#32
  let v495 : BitVec 32 := Scalar.addi v494 c4_i32_341
  let c0_i32_344 : BitVec 32 := 0#32
  ![v495.toNat, 0]
def k0_off1265 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_346 : BitVec 32 := 16#32
  let v504 : BitVec 32 := Scalar.muli arg13 c16_i32_346
  let c6_i32 : BitVec 32 := 6#32
  let v505 : BitVec 32 := Scalar.addi v504 c6_i32
  let c0_i32_347 : BitVec 32 := 0#32
  ![v505.toNat, 0]
def k0_off1266 (v507 : BitVec 32) : Fin 2 → Nat :=
  let c0_i32_348 : BitVec 32 := 0#32
  ![v507.toNat, 0]

def k0_chk517 (v507 : BitVec 32) : Prop :=
  (∀ a, (k0_off1266 v507) a + S1x64.size a ≤ S1000000x64.size a)
instance k0_chk517.dec : ∀ (v507 : BitVec 32), Decidable (k0_chk517 v507) := fun v507 => decidable_of_iff' _ (Iff.of_eq (k0_chk517.eq_1 v507))
theorem k0_off1266_inb : ∀ (v507 : BitVec 32) (k0_hw517 : k0_chk517 v507), ∀ a, (k0_off1266 v507) a + S1x64.size a ≤ S1000000x64.size a := fun v507 k0_hw517 => k0_hw517

def k0_off1267 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_346 : BitVec 32 := 16#32
  let v504 : BitVec 32 := Scalar.muli arg13 c16_i32_346
  let c6_i32 : BitVec 32 := 6#32
  let v505 : BitVec 32 := Scalar.addi v504 c6_i32
  let c0_i32_349 : BitVec 32 := 0#32
  ![v505.toNat, 0]
def k0_off1268 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_346 : BitVec 32 := 16#32
  let v504 : BitVec 32 := Scalar.muli arg13 c16_i32_346
  let c6_i32 : BitVec 32 := 6#32
  let v505 : BitVec 32 := Scalar.addi v504 c6_i32
  let c5_i32_351 : BitVec 32 := 5#32
  let v518 : BitVec 32 := Scalar.muli v505 c5_i32_351
  let c0_i32_352 : BitVec 32 := 0#32
  let v519 : BitVec 32 := Scalar.addi v518 c0_i32_352
  let c0_i32_353 : BitVec 32 := 0#32
  ![v519.toNat, 0]
def k0_off1269 (v517 : BitVec 32) : Fin 2 → Nat :=
  let c0_i32_354 : BitVec 32 := 0#32
  ![v517.toNat, 0]

def k0_chk518 (v517 : BitVec 32) : Prop :=
  (∀ a, (k0_off1269 v517) a + S1x64.size a ≤ S1000000x64.size a)
instance k0_chk518.dec : ∀ (v517 : BitVec 32), Decidable (k0_chk518 v517) := fun v517 => decidable_of_iff' _ (Iff.of_eq (k0_chk518.eq_1 v517))
theorem k0_off1269_inb : ∀ (v517 : BitVec 32) (k0_hw518 : k0_chk518 v517), ∀ a, (k0_off1269 v517) a + S1x64.size a ≤ S1000000x64.size a := fun v517 k0_hw518 => k0_hw518

def k0_off1270 (k0_t16 : Fin k0_t16_loop.trips) (c0_i32_352 : BitVec 32) : Fin 2 → Nat :=
  let c0_i32_74 : BitVec 32 := 0#32
  let c1_i32_76 : BitVec 32 := 1#32
  let arg13 : BitVec 32 := Scf.iv c0_i32_74 c1_i32_76 k0_t16
  let c16_i32_346 : BitVec 32 := 16#32
  let v504 : BitVec 32 := Scalar.muli arg13 c16_i32_346
  let c6_i32 : BitVec 32 := 6#32
  let v505 : BitVec 32 := Scalar.addi v504 c6_i32
  let c5_i32_351 : BitVec 32 := 5#32
  let v518 : BitVec 32 := Scalar.muli v505 c5_i32_351
  let v519 : BitVec 32 := Scalar.addi v518 c0_i32_352
  let c0_i32_355 : BitVec 32 := 0#32
  ![v519.toNat, 0]
def k0_off1271 (v529 : BitVec 32) : Fin 2 → Nat :=
  let c0_i32_360 : BitVec 32 := 0#32
  ![v529.toNat, 0]

def k0_chk519 (v529 : BitVec 32) : Prop :=
  (∀ a, (k0_off1271 v529) a + S1x64.size a ≤ S1000000x64.size a)
instance k0_chk519.dec : ∀ (v529 : BitVec 32), Decidable (k0_chk519 v529) := fun v529 => decidable_of_iff' _ (Iff.of_eq (k0_chk519.eq_1 v529))
theorem k0_off1271_inb : ∀ (v529 : BitVec 32) (k0_hw519 : k0_chk519 v529), ∀ a, (k0_off1271 v529) a + S1x64.size a ≤ S1000000x64.size a := fun v529 k0_hw519 => k0_hw519

def k0_off1272 (k0_t16 : Fin k0_t16_loop.trips) (c1_i32_358 : BitVec 32) : Fin 2 → Nat :=
  let c0_i32_74 : BitVec 32 := 0#32
  let c1_i32_76 : BitVec 32 := 1#32
  let arg13 : BitVec 32 := Scf.iv c0_i32_74 c1_i32_76 k0_t16
  let c16_i32_346 : BitVec 32 := 16#32
  let v504 : BitVec 32 := Scalar.muli arg13 c16_i32_346
  let c6_i32 : BitVec 32 := 6#32
  let v505 : BitVec 32 := Scalar.addi v504 c6_i32
  let c5_i32_357 : BitVec 32 := 5#32
  let v530 : BitVec 32 := Scalar.muli v505 c5_i32_357
  let v531 : BitVec 32 := Scalar.addi v530 c1_i32_358
  let c0_i32_361 : BitVec 32 := 0#32
  ![v531.toNat, 0]
def k0_off1273 (v541 : BitVec 32) : Fin 2 → Nat :=
  let c0_i32_366 : BitVec 32 := 0#32
  ![v541.toNat, 0]

def k0_chk520 (v541 : BitVec 32) : Prop :=
  (∀ a, (k0_off1273 v541) a + S1x64.size a ≤ S1000000x64.size a)
instance k0_chk520.dec : ∀ (v541 : BitVec 32), Decidable (k0_chk520 v541) := fun v541 => decidable_of_iff' _ (Iff.of_eq (k0_chk520.eq_1 v541))
theorem k0_off1273_inb : ∀ (v541 : BitVec 32) (k0_hw520 : k0_chk520 v541), ∀ a, (k0_off1273 v541) a + S1x64.size a ≤ S1000000x64.size a := fun v541 k0_hw520 => k0_hw520

def k0_off1274 (k0_t16 : Fin k0_t16_loop.trips) (c2_i32_364 : BitVec 32) : Fin 2 → Nat :=
  let c0_i32_74 : BitVec 32 := 0#32
  let c1_i32_76 : BitVec 32 := 1#32
  let arg13 : BitVec 32 := Scf.iv c0_i32_74 c1_i32_76 k0_t16
  let c16_i32_346 : BitVec 32 := 16#32
  let v504 : BitVec 32 := Scalar.muli arg13 c16_i32_346
  let c6_i32 : BitVec 32 := 6#32
  let v505 : BitVec 32 := Scalar.addi v504 c6_i32
  let c5_i32_363 : BitVec 32 := 5#32
  let v542 : BitVec 32 := Scalar.muli v505 c5_i32_363
  let v543 : BitVec 32 := Scalar.addi v542 c2_i32_364
  let c0_i32_367 : BitVec 32 := 0#32
  ![v543.toNat, 0]
def k0_off1275 (v553 : BitVec 32) : Fin 2 → Nat :=
  let c0_i32_372 : BitVec 32 := 0#32
  ![v553.toNat, 0]

def k0_chk521 (v553 : BitVec 32) : Prop :=
  (∀ a, (k0_off1275 v553) a + S1x64.size a ≤ S1000000x64.size a)
instance k0_chk521.dec : ∀ (v553 : BitVec 32), Decidable (k0_chk521 v553) := fun v553 => decidable_of_iff' _ (Iff.of_eq (k0_chk521.eq_1 v553))
theorem k0_off1275_inb : ∀ (v553 : BitVec 32) (k0_hw521 : k0_chk521 v553), ∀ a, (k0_off1275 v553) a + S1x64.size a ≤ S1000000x64.size a := fun v553 k0_hw521 => k0_hw521

def k0_off1276 (k0_t16 : Fin k0_t16_loop.trips) (c3_i32_370 : BitVec 32) : Fin 2 → Nat :=
  let c0_i32_74 : BitVec 32 := 0#32
  let c1_i32_76 : BitVec 32 := 1#32
  let arg13 : BitVec 32 := Scf.iv c0_i32_74 c1_i32_76 k0_t16
  let c16_i32_346 : BitVec 32 := 16#32
  let v504 : BitVec 32 := Scalar.muli arg13 c16_i32_346
  let c6_i32 : BitVec 32 := 6#32
  let v505 : BitVec 32 := Scalar.addi v504 c6_i32
  let c5_i32_369 : BitVec 32 := 5#32
  let v554 : BitVec 32 := Scalar.muli v505 c5_i32_369
  let v555 : BitVec 32 := Scalar.addi v554 c3_i32_370
  let c0_i32_373 : BitVec 32 := 0#32
  ![v555.toNat, 0]
def k0_off1277 (v565 : BitVec 32) : Fin 2 → Nat :=
  let c0_i32_378 : BitVec 32 := 0#32
  ![v565.toNat, 0]

def k0_chk522 (v565 : BitVec 32) : Prop :=
  (∀ a, (k0_off1277 v565) a + S1x64.size a ≤ S1000000x64.size a)
instance k0_chk522.dec : ∀ (v565 : BitVec 32), Decidable (k0_chk522 v565) := fun v565 => decidable_of_iff' _ (Iff.of_eq (k0_chk522.eq_1 v565))
theorem k0_off1277_inb : ∀ (v565 : BitVec 32) (k0_hw522 : k0_chk522 v565), ∀ a, (k0_off1277 v565) a + S1x64.size a ≤ S1000000x64.size a := fun v565 k0_hw522 => k0_hw522

def k0_off1278 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_346 : BitVec 32 := 16#32
  let v504 : BitVec 32 := Scalar.muli arg13 c16_i32_346
  let c6_i32 : BitVec 32 := 6#32
  let v505 : BitVec 32 := Scalar.addi v504 c6_i32
  let c5_i32_375 : BitVec 32 := 5#32
  let v566 : BitVec 32 := Scalar.muli v505 c5_i32_375
  let c4_i32_376 : BitVec 32 := 4#32
  let v567 : BitVec 32 := Scalar.addi v566 c4_i32_376
  let c0_i32_379 : BitVec 32 := 0#32
  ![v567.toNat, 0]
def k0_off1279 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_381 : BitVec 32 := 16#32
  let v576 : BitVec 32 := Scalar.muli arg13 c16_i32_381
  let c7_i32 : BitVec 32 := 7#32
  let v577 : BitVec 32 := Scalar.addi v576 c7_i32
  let c0_i32_382 : BitVec 32 := 0#32
  ![v577.toNat, 0]
def k0_off1280 (v579 : BitVec 32) : Fin 2 → Nat :=
  let c0_i32_383 : BitVec 32 := 0#32
  ![v579.toNat, 0]

def k0_chk523 (v579 : BitVec 32) : Prop :=
  (∀ a, (k0_off1280 v579) a + S1x64.size a ≤ S1000000x64.size a)
instance k0_chk523.dec : ∀ (v579 : BitVec 32), Decidable (k0_chk523 v579) := fun v579 => decidable_of_iff' _ (Iff.of_eq (k0_chk523.eq_1 v579))
theorem k0_off1280_inb : ∀ (v579 : BitVec 32) (k0_hw523 : k0_chk523 v579), ∀ a, (k0_off1280 v579) a + S1x64.size a ≤ S1000000x64.size a := fun v579 k0_hw523 => k0_hw523

def k0_off1281 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_381 : BitVec 32 := 16#32
  let v576 : BitVec 32 := Scalar.muli arg13 c16_i32_381
  let c7_i32 : BitVec 32 := 7#32
  let v577 : BitVec 32 := Scalar.addi v576 c7_i32
  let c0_i32_384 : BitVec 32 := 0#32
  ![v577.toNat, 0]
def k0_off1282 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_381 : BitVec 32 := 16#32
  let v576 : BitVec 32 := Scalar.muli arg13 c16_i32_381
  let c7_i32 : BitVec 32 := 7#32
  let v577 : BitVec 32 := Scalar.addi v576 c7_i32
  let c5_i32_386 : BitVec 32 := 5#32
  let v590 : BitVec 32 := Scalar.muli v577 c5_i32_386
  let c0_i32_387 : BitVec 32 := 0#32
  let v591 : BitVec 32 := Scalar.addi v590 c0_i32_387
  let c0_i32_388 : BitVec 32 := 0#32
  ![v591.toNat, 0]
def k0_off1283 (v589 : BitVec 32) : Fin 2 → Nat :=
  let c0_i32_389 : BitVec 32 := 0#32
  ![v589.toNat, 0]

def k0_chk524 (v589 : BitVec 32) : Prop :=
  (∀ a, (k0_off1283 v589) a + S1x64.size a ≤ S1000000x64.size a)
instance k0_chk524.dec : ∀ (v589 : BitVec 32), Decidable (k0_chk524 v589) := fun v589 => decidable_of_iff' _ (Iff.of_eq (k0_chk524.eq_1 v589))
theorem k0_off1283_inb : ∀ (v589 : BitVec 32) (k0_hw524 : k0_chk524 v589), ∀ a, (k0_off1283 v589) a + S1x64.size a ≤ S1000000x64.size a := fun v589 k0_hw524 => k0_hw524

def k0_off1284 (k0_t16 : Fin k0_t16_loop.trips) (c0_i32_387 : BitVec 32) : Fin 2 → Nat :=
  let c0_i32_74 : BitVec 32 := 0#32
  let c1_i32_76 : BitVec 32 := 1#32
  let arg13 : BitVec 32 := Scf.iv c0_i32_74 c1_i32_76 k0_t16
  let c16_i32_381 : BitVec 32 := 16#32
  let v576 : BitVec 32 := Scalar.muli arg13 c16_i32_381
  let c7_i32 : BitVec 32 := 7#32
  let v577 : BitVec 32 := Scalar.addi v576 c7_i32
  let c5_i32_386 : BitVec 32 := 5#32
  let v590 : BitVec 32 := Scalar.muli v577 c5_i32_386
  let v591 : BitVec 32 := Scalar.addi v590 c0_i32_387
  let c0_i32_390 : BitVec 32 := 0#32
  ![v591.toNat, 0]
def k0_off1285 (v601 : BitVec 32) : Fin 2 → Nat :=
  let c0_i32_395 : BitVec 32 := 0#32
  ![v601.toNat, 0]

def k0_chk525 (v601 : BitVec 32) : Prop :=
  (∀ a, (k0_off1285 v601) a + S1x64.size a ≤ S1000000x64.size a)
instance k0_chk525.dec : ∀ (v601 : BitVec 32), Decidable (k0_chk525 v601) := fun v601 => decidable_of_iff' _ (Iff.of_eq (k0_chk525.eq_1 v601))
theorem k0_off1285_inb : ∀ (v601 : BitVec 32) (k0_hw525 : k0_chk525 v601), ∀ a, (k0_off1285 v601) a + S1x64.size a ≤ S1000000x64.size a := fun v601 k0_hw525 => k0_hw525

def k0_off1286 (k0_t16 : Fin k0_t16_loop.trips) (c1_i32_393 : BitVec 32) : Fin 2 → Nat :=
  let c0_i32_74 : BitVec 32 := 0#32
  let c1_i32_76 : BitVec 32 := 1#32
  let arg13 : BitVec 32 := Scf.iv c0_i32_74 c1_i32_76 k0_t16
  let c16_i32_381 : BitVec 32 := 16#32
  let v576 : BitVec 32 := Scalar.muli arg13 c16_i32_381
  let c7_i32 : BitVec 32 := 7#32
  let v577 : BitVec 32 := Scalar.addi v576 c7_i32
  let c5_i32_392 : BitVec 32 := 5#32
  let v602 : BitVec 32 := Scalar.muli v577 c5_i32_392
  let v603 : BitVec 32 := Scalar.addi v602 c1_i32_393
  let c0_i32_396 : BitVec 32 := 0#32
  ![v603.toNat, 0]
def k0_off1287 (v613 : BitVec 32) : Fin 2 → Nat :=
  let c0_i32_401 : BitVec 32 := 0#32
  ![v613.toNat, 0]

def k0_chk526 (v613 : BitVec 32) : Prop :=
  (∀ a, (k0_off1287 v613) a + S1x64.size a ≤ S1000000x64.size a)
instance k0_chk526.dec : ∀ (v613 : BitVec 32), Decidable (k0_chk526 v613) := fun v613 => decidable_of_iff' _ (Iff.of_eq (k0_chk526.eq_1 v613))
theorem k0_off1287_inb : ∀ (v613 : BitVec 32) (k0_hw526 : k0_chk526 v613), ∀ a, (k0_off1287 v613) a + S1x64.size a ≤ S1000000x64.size a := fun v613 k0_hw526 => k0_hw526

def k0_off1288 (k0_t16 : Fin k0_t16_loop.trips) (c2_i32_399 : BitVec 32) : Fin 2 → Nat :=
  let c0_i32_74 : BitVec 32 := 0#32
  let c1_i32_76 : BitVec 32 := 1#32
  let arg13 : BitVec 32 := Scf.iv c0_i32_74 c1_i32_76 k0_t16
  let c16_i32_381 : BitVec 32 := 16#32
  let v576 : BitVec 32 := Scalar.muli arg13 c16_i32_381
  let c7_i32 : BitVec 32 := 7#32
  let v577 : BitVec 32 := Scalar.addi v576 c7_i32
  let c5_i32_398 : BitVec 32 := 5#32
  let v614 : BitVec 32 := Scalar.muli v577 c5_i32_398
  let v615 : BitVec 32 := Scalar.addi v614 c2_i32_399
  let c0_i32_402 : BitVec 32 := 0#32
  ![v615.toNat, 0]
def k0_off1289 (v625 : BitVec 32) : Fin 2 → Nat :=
  let c0_i32_407 : BitVec 32 := 0#32
  ![v625.toNat, 0]

def k0_chk527 (v625 : BitVec 32) : Prop :=
  (∀ a, (k0_off1289 v625) a + S1x64.size a ≤ S1000000x64.size a)
instance k0_chk527.dec : ∀ (v625 : BitVec 32), Decidable (k0_chk527 v625) := fun v625 => decidable_of_iff' _ (Iff.of_eq (k0_chk527.eq_1 v625))
theorem k0_off1289_inb : ∀ (v625 : BitVec 32) (k0_hw527 : k0_chk527 v625), ∀ a, (k0_off1289 v625) a + S1x64.size a ≤ S1000000x64.size a := fun v625 k0_hw527 => k0_hw527

def k0_off1290 (k0_t16 : Fin k0_t16_loop.trips) (c3_i32_405 : BitVec 32) : Fin 2 → Nat :=
  let c0_i32_74 : BitVec 32 := 0#32
  let c1_i32_76 : BitVec 32 := 1#32
  let arg13 : BitVec 32 := Scf.iv c0_i32_74 c1_i32_76 k0_t16
  let c16_i32_381 : BitVec 32 := 16#32
  let v576 : BitVec 32 := Scalar.muli arg13 c16_i32_381
  let c7_i32 : BitVec 32 := 7#32
  let v577 : BitVec 32 := Scalar.addi v576 c7_i32
  let c5_i32_404 : BitVec 32 := 5#32
  let v626 : BitVec 32 := Scalar.muli v577 c5_i32_404
  let v627 : BitVec 32 := Scalar.addi v626 c3_i32_405
  let c0_i32_408 : BitVec 32 := 0#32
  ![v627.toNat, 0]
def k0_off1291 (v637 : BitVec 32) : Fin 2 → Nat :=
  let c0_i32_413 : BitVec 32 := 0#32
  ![v637.toNat, 0]

def k0_chk528 (v637 : BitVec 32) : Prop :=
  (∀ a, (k0_off1291 v637) a + S1x64.size a ≤ S1000000x64.size a)
instance k0_chk528.dec : ∀ (v637 : BitVec 32), Decidable (k0_chk528 v637) := fun v637 => decidable_of_iff' _ (Iff.of_eq (k0_chk528.eq_1 v637))
theorem k0_off1291_inb : ∀ (v637 : BitVec 32) (k0_hw528 : k0_chk528 v637), ∀ a, (k0_off1291 v637) a + S1x64.size a ≤ S1000000x64.size a := fun v637 k0_hw528 => k0_hw528

def k0_off1292 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_381 : BitVec 32 := 16#32
  let v576 : BitVec 32 := Scalar.muli arg13 c16_i32_381
  let c7_i32 : BitVec 32 := 7#32
  let v577 : BitVec 32 := Scalar.addi v576 c7_i32
  let c5_i32_410 : BitVec 32 := 5#32
  let v638 : BitVec 32 := Scalar.muli v577 c5_i32_410
  let c4_i32_411 : BitVec 32 := 4#32
  let v639 : BitVec 32 := Scalar.addi v638 c4_i32_411
  let c0_i32_414 : BitVec 32 := 0#32
  ![v639.toNat, 0]
def k0_off1293 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_416 : BitVec 32 := 16#32
  let v648 : BitVec 32 := Scalar.muli arg13 c16_i32_416
  let c8_i32 : BitVec 32 := 8#32
  let v649 : BitVec 32 := Scalar.addi v648 c8_i32
  let c0_i32_417 : BitVec 32 := 0#32
  ![v649.toNat, 0]
def k0_off1294 (v651 : BitVec 32) : Fin 2 → Nat :=
  let c0_i32_418 : BitVec 32 := 0#32
  ![v651.toNat, 0]

def k0_chk529 (v651 : BitVec 32) : Prop :=
  (∀ a, (k0_off1294 v651) a + S1x64.size a ≤ S1000000x64.size a)
instance k0_chk529.dec : ∀ (v651 : BitVec 32), Decidable (k0_chk529 v651) := fun v651 => decidable_of_iff' _ (Iff.of_eq (k0_chk529.eq_1 v651))
theorem k0_off1294_inb : ∀ (v651 : BitVec 32) (k0_hw529 : k0_chk529 v651), ∀ a, (k0_off1294 v651) a + S1x64.size a ≤ S1000000x64.size a := fun v651 k0_hw529 => k0_hw529

def k0_off1295 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_416 : BitVec 32 := 16#32
  let v648 : BitVec 32 := Scalar.muli arg13 c16_i32_416
  let c8_i32 : BitVec 32 := 8#32
  let v649 : BitVec 32 := Scalar.addi v648 c8_i32
  let c0_i32_419 : BitVec 32 := 0#32
  ![v649.toNat, 0]
def k0_off1296 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_416 : BitVec 32 := 16#32
  let v648 : BitVec 32 := Scalar.muli arg13 c16_i32_416
  let c8_i32 : BitVec 32 := 8#32
  let v649 : BitVec 32 := Scalar.addi v648 c8_i32
  let c5_i32_421 : BitVec 32 := 5#32
  let v662 : BitVec 32 := Scalar.muli v649 c5_i32_421
  let c0_i32_422 : BitVec 32 := 0#32
  let v663 : BitVec 32 := Scalar.addi v662 c0_i32_422
  let c0_i32_423 : BitVec 32 := 0#32
  ![v663.toNat, 0]
def k0_off1297 (v661 : BitVec 32) : Fin 2 → Nat :=
  let c0_i32_424 : BitVec 32 := 0#32
  ![v661.toNat, 0]

def k0_chk530 (v661 : BitVec 32) : Prop :=
  (∀ a, (k0_off1297 v661) a + S1x64.size a ≤ S1000000x64.size a)
instance k0_chk530.dec : ∀ (v661 : BitVec 32), Decidable (k0_chk530 v661) := fun v661 => decidable_of_iff' _ (Iff.of_eq (k0_chk530.eq_1 v661))
theorem k0_off1297_inb : ∀ (v661 : BitVec 32) (k0_hw530 : k0_chk530 v661), ∀ a, (k0_off1297 v661) a + S1x64.size a ≤ S1000000x64.size a := fun v661 k0_hw530 => k0_hw530

def k0_off1298 (k0_t16 : Fin k0_t16_loop.trips) (c0_i32_422 : BitVec 32) : Fin 2 → Nat :=
  let c0_i32_74 : BitVec 32 := 0#32
  let c1_i32_76 : BitVec 32 := 1#32
  let arg13 : BitVec 32 := Scf.iv c0_i32_74 c1_i32_76 k0_t16
  let c16_i32_416 : BitVec 32 := 16#32
  let v648 : BitVec 32 := Scalar.muli arg13 c16_i32_416
  let c8_i32 : BitVec 32 := 8#32
  let v649 : BitVec 32 := Scalar.addi v648 c8_i32
  let c5_i32_421 : BitVec 32 := 5#32
  let v662 : BitVec 32 := Scalar.muli v649 c5_i32_421
  let v663 : BitVec 32 := Scalar.addi v662 c0_i32_422
  let c0_i32_425 : BitVec 32 := 0#32
  ![v663.toNat, 0]
def k0_off1299 (v673 : BitVec 32) : Fin 2 → Nat :=
  let c0_i32_430 : BitVec 32 := 0#32
  ![v673.toNat, 0]

def k0_chk531 (v673 : BitVec 32) : Prop :=
  (∀ a, (k0_off1299 v673) a + S1x64.size a ≤ S1000000x64.size a)
instance k0_chk531.dec : ∀ (v673 : BitVec 32), Decidable (k0_chk531 v673) := fun v673 => decidable_of_iff' _ (Iff.of_eq (k0_chk531.eq_1 v673))
theorem k0_off1299_inb : ∀ (v673 : BitVec 32) (k0_hw531 : k0_chk531 v673), ∀ a, (k0_off1299 v673) a + S1x64.size a ≤ S1000000x64.size a := fun v673 k0_hw531 => k0_hw531

def k0_off1300 (k0_t16 : Fin k0_t16_loop.trips) (c1_i32_428 : BitVec 32) : Fin 2 → Nat :=
  let c0_i32_74 : BitVec 32 := 0#32
  let c1_i32_76 : BitVec 32 := 1#32
  let arg13 : BitVec 32 := Scf.iv c0_i32_74 c1_i32_76 k0_t16
  let c16_i32_416 : BitVec 32 := 16#32
  let v648 : BitVec 32 := Scalar.muli arg13 c16_i32_416
  let c8_i32 : BitVec 32 := 8#32
  let v649 : BitVec 32 := Scalar.addi v648 c8_i32
  let c5_i32_427 : BitVec 32 := 5#32
  let v674 : BitVec 32 := Scalar.muli v649 c5_i32_427
  let v675 : BitVec 32 := Scalar.addi v674 c1_i32_428
  let c0_i32_431 : BitVec 32 := 0#32
  ![v675.toNat, 0]
def k0_off1301 (v685 : BitVec 32) : Fin 2 → Nat :=
  let c0_i32_436 : BitVec 32 := 0#32
  ![v685.toNat, 0]

def k0_chk532 (v685 : BitVec 32) : Prop :=
  (∀ a, (k0_off1301 v685) a + S1x64.size a ≤ S1000000x64.size a)
instance k0_chk532.dec : ∀ (v685 : BitVec 32), Decidable (k0_chk532 v685) := fun v685 => decidable_of_iff' _ (Iff.of_eq (k0_chk532.eq_1 v685))
theorem k0_off1301_inb : ∀ (v685 : BitVec 32) (k0_hw532 : k0_chk532 v685), ∀ a, (k0_off1301 v685) a + S1x64.size a ≤ S1000000x64.size a := fun v685 k0_hw532 => k0_hw532

def k0_off1302 (k0_t16 : Fin k0_t16_loop.trips) (c2_i32_434 : BitVec 32) : Fin 2 → Nat :=
  let c0_i32_74 : BitVec 32 := 0#32
  let c1_i32_76 : BitVec 32 := 1#32
  let arg13 : BitVec 32 := Scf.iv c0_i32_74 c1_i32_76 k0_t16
  let c16_i32_416 : BitVec 32 := 16#32
  let v648 : BitVec 32 := Scalar.muli arg13 c16_i32_416
  let c8_i32 : BitVec 32 := 8#32
  let v649 : BitVec 32 := Scalar.addi v648 c8_i32
  let c5_i32_433 : BitVec 32 := 5#32
  let v686 : BitVec 32 := Scalar.muli v649 c5_i32_433
  let v687 : BitVec 32 := Scalar.addi v686 c2_i32_434
  let c0_i32_437 : BitVec 32 := 0#32
  ![v687.toNat, 0]
def k0_off1303 (v697 : BitVec 32) : Fin 2 → Nat :=
  let c0_i32_442 : BitVec 32 := 0#32
  ![v697.toNat, 0]

def k0_chk533 (v697 : BitVec 32) : Prop :=
  (∀ a, (k0_off1303 v697) a + S1x64.size a ≤ S1000000x64.size a)
instance k0_chk533.dec : ∀ (v697 : BitVec 32), Decidable (k0_chk533 v697) := fun v697 => decidable_of_iff' _ (Iff.of_eq (k0_chk533.eq_1 v697))
theorem k0_off1303_inb : ∀ (v697 : BitVec 32) (k0_hw533 : k0_chk533 v697), ∀ a, (k0_off1303 v697) a + S1x64.size a ≤ S1000000x64.size a := fun v697 k0_hw533 => k0_hw533

def k0_off1304 (k0_t16 : Fin k0_t16_loop.trips) (c3_i32_440 : BitVec 32) : Fin 2 → Nat :=
  let c0_i32_74 : BitVec 32 := 0#32
  let c1_i32_76 : BitVec 32 := 1#32
  let arg13 : BitVec 32 := Scf.iv c0_i32_74 c1_i32_76 k0_t16
  let c16_i32_416 : BitVec 32 := 16#32
  let v648 : BitVec 32 := Scalar.muli arg13 c16_i32_416
  let c8_i32 : BitVec 32 := 8#32
  let v649 : BitVec 32 := Scalar.addi v648 c8_i32
  let c5_i32_439 : BitVec 32 := 5#32
  let v698 : BitVec 32 := Scalar.muli v649 c5_i32_439
  let v699 : BitVec 32 := Scalar.addi v698 c3_i32_440
  let c0_i32_443 : BitVec 32 := 0#32
  ![v699.toNat, 0]
def k0_off1305 (v709 : BitVec 32) : Fin 2 → Nat :=
  let c0_i32_448 : BitVec 32 := 0#32
  ![v709.toNat, 0]

def k0_chk534 (v709 : BitVec 32) : Prop :=
  (∀ a, (k0_off1305 v709) a + S1x64.size a ≤ S1000000x64.size a)
instance k0_chk534.dec : ∀ (v709 : BitVec 32), Decidable (k0_chk534 v709) := fun v709 => decidable_of_iff' _ (Iff.of_eq (k0_chk534.eq_1 v709))
theorem k0_off1305_inb : ∀ (v709 : BitVec 32) (k0_hw534 : k0_chk534 v709), ∀ a, (k0_off1305 v709) a + S1x64.size a ≤ S1000000x64.size a := fun v709 k0_hw534 => k0_hw534

def k0_off1306 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_416 : BitVec 32 := 16#32
  let v648 : BitVec 32 := Scalar.muli arg13 c16_i32_416
  let c8_i32 : BitVec 32 := 8#32
  let v649 : BitVec 32 := Scalar.addi v648 c8_i32
  let c5_i32_445 : BitVec 32 := 5#32
  let v710 : BitVec 32 := Scalar.muli v649 c5_i32_445
  let c4_i32_446 : BitVec 32 := 4#32
  let v711 : BitVec 32 := Scalar.addi v710 c4_i32_446
  let c0_i32_449 : BitVec 32 := 0#32
  ![v711.toNat, 0]
def k0_off1307 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_451 : BitVec 32 := 16#32
  let v720 : BitVec 32 := Scalar.muli arg13 c16_i32_451
  let c9_i32 : BitVec 32 := 9#32
  let v721 : BitVec 32 := Scalar.addi v720 c9_i32
  let c0_i32_452 : BitVec 32 := 0#32
  ![v721.toNat, 0]
def k0_off1308 (v723 : BitVec 32) : Fin 2 → Nat :=
  let c0_i32_453 : BitVec 32 := 0#32
  ![v723.toNat, 0]

def k0_chk535 (v723 : BitVec 32) : Prop :=
  (∀ a, (k0_off1308 v723) a + S1x64.size a ≤ S1000000x64.size a)
instance k0_chk535.dec : ∀ (v723 : BitVec 32), Decidable (k0_chk535 v723) := fun v723 => decidable_of_iff' _ (Iff.of_eq (k0_chk535.eq_1 v723))
theorem k0_off1308_inb : ∀ (v723 : BitVec 32) (k0_hw535 : k0_chk535 v723), ∀ a, (k0_off1308 v723) a + S1x64.size a ≤ S1000000x64.size a := fun v723 k0_hw535 => k0_hw535

def k0_off1309 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_451 : BitVec 32 := 16#32
  let v720 : BitVec 32 := Scalar.muli arg13 c16_i32_451
  let c9_i32 : BitVec 32 := 9#32
  let v721 : BitVec 32 := Scalar.addi v720 c9_i32
  let c0_i32_454 : BitVec 32 := 0#32
  ![v721.toNat, 0]
def k0_off1310 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_451 : BitVec 32 := 16#32
  let v720 : BitVec 32 := Scalar.muli arg13 c16_i32_451
  let c9_i32 : BitVec 32 := 9#32
  let v721 : BitVec 32 := Scalar.addi v720 c9_i32
  let c5_i32_456 : BitVec 32 := 5#32
  let v734 : BitVec 32 := Scalar.muli v721 c5_i32_456
  let c0_i32_457 : BitVec 32 := 0#32
  let v735 : BitVec 32 := Scalar.addi v734 c0_i32_457
  let c0_i32_458 : BitVec 32 := 0#32
  ![v735.toNat, 0]
def k0_off1311 (v733 : BitVec 32) : Fin 2 → Nat :=
  let c0_i32_459 : BitVec 32 := 0#32
  ![v733.toNat, 0]

def k0_chk536 (v733 : BitVec 32) : Prop :=
  (∀ a, (k0_off1311 v733) a + S1x64.size a ≤ S1000000x64.size a)
instance k0_chk536.dec : ∀ (v733 : BitVec 32), Decidable (k0_chk536 v733) := fun v733 => decidable_of_iff' _ (Iff.of_eq (k0_chk536.eq_1 v733))
theorem k0_off1311_inb : ∀ (v733 : BitVec 32) (k0_hw536 : k0_chk536 v733), ∀ a, (k0_off1311 v733) a + S1x64.size a ≤ S1000000x64.size a := fun v733 k0_hw536 => k0_hw536

def k0_off1312 (k0_t16 : Fin k0_t16_loop.trips) (c0_i32_457 : BitVec 32) : Fin 2 → Nat :=
  let c0_i32_74 : BitVec 32 := 0#32
  let c1_i32_76 : BitVec 32 := 1#32
  let arg13 : BitVec 32 := Scf.iv c0_i32_74 c1_i32_76 k0_t16
  let c16_i32_451 : BitVec 32 := 16#32
  let v720 : BitVec 32 := Scalar.muli arg13 c16_i32_451
  let c9_i32 : BitVec 32 := 9#32
  let v721 : BitVec 32 := Scalar.addi v720 c9_i32
  let c5_i32_456 : BitVec 32 := 5#32
  let v734 : BitVec 32 := Scalar.muli v721 c5_i32_456
  let v735 : BitVec 32 := Scalar.addi v734 c0_i32_457
  let c0_i32_460 : BitVec 32 := 0#32
  ![v735.toNat, 0]
def k0_off1313 (v745 : BitVec 32) : Fin 2 → Nat :=
  let c0_i32_465 : BitVec 32 := 0#32
  ![v745.toNat, 0]

def k0_chk537 (v745 : BitVec 32) : Prop :=
  (∀ a, (k0_off1313 v745) a + S1x64.size a ≤ S1000000x64.size a)
instance k0_chk537.dec : ∀ (v745 : BitVec 32), Decidable (k0_chk537 v745) := fun v745 => decidable_of_iff' _ (Iff.of_eq (k0_chk537.eq_1 v745))
theorem k0_off1313_inb : ∀ (v745 : BitVec 32) (k0_hw537 : k0_chk537 v745), ∀ a, (k0_off1313 v745) a + S1x64.size a ≤ S1000000x64.size a := fun v745 k0_hw537 => k0_hw537

def k0_off1314 (k0_t16 : Fin k0_t16_loop.trips) (c1_i32_463 : BitVec 32) : Fin 2 → Nat :=
  let c0_i32_74 : BitVec 32 := 0#32
  let c1_i32_76 : BitVec 32 := 1#32
  let arg13 : BitVec 32 := Scf.iv c0_i32_74 c1_i32_76 k0_t16
  let c16_i32_451 : BitVec 32 := 16#32
  let v720 : BitVec 32 := Scalar.muli arg13 c16_i32_451
  let c9_i32 : BitVec 32 := 9#32
  let v721 : BitVec 32 := Scalar.addi v720 c9_i32
  let c5_i32_462 : BitVec 32 := 5#32
  let v746 : BitVec 32 := Scalar.muli v721 c5_i32_462
  let v747 : BitVec 32 := Scalar.addi v746 c1_i32_463
  let c0_i32_466 : BitVec 32 := 0#32
  ![v747.toNat, 0]
def k0_off1315 (v757 : BitVec 32) : Fin 2 → Nat :=
  let c0_i32_471 : BitVec 32 := 0#32
  ![v757.toNat, 0]

def k0_chk538 (v757 : BitVec 32) : Prop :=
  (∀ a, (k0_off1315 v757) a + S1x64.size a ≤ S1000000x64.size a)
instance k0_chk538.dec : ∀ (v757 : BitVec 32), Decidable (k0_chk538 v757) := fun v757 => decidable_of_iff' _ (Iff.of_eq (k0_chk538.eq_1 v757))
theorem k0_off1315_inb : ∀ (v757 : BitVec 32) (k0_hw538 : k0_chk538 v757), ∀ a, (k0_off1315 v757) a + S1x64.size a ≤ S1000000x64.size a := fun v757 k0_hw538 => k0_hw538

def k0_off1316 (k0_t16 : Fin k0_t16_loop.trips) (c2_i32_469 : BitVec 32) : Fin 2 → Nat :=
  let c0_i32_74 : BitVec 32 := 0#32
  let c1_i32_76 : BitVec 32 := 1#32
  let arg13 : BitVec 32 := Scf.iv c0_i32_74 c1_i32_76 k0_t16
  let c16_i32_451 : BitVec 32 := 16#32
  let v720 : BitVec 32 := Scalar.muli arg13 c16_i32_451
  let c9_i32 : BitVec 32 := 9#32
  let v721 : BitVec 32 := Scalar.addi v720 c9_i32
  let c5_i32_468 : BitVec 32 := 5#32
  let v758 : BitVec 32 := Scalar.muli v721 c5_i32_468
  let v759 : BitVec 32 := Scalar.addi v758 c2_i32_469
  let c0_i32_472 : BitVec 32 := 0#32
  ![v759.toNat, 0]
def k0_off1317 (v769 : BitVec 32) : Fin 2 → Nat :=
  let c0_i32_477 : BitVec 32 := 0#32
  ![v769.toNat, 0]

def k0_chk539 (v769 : BitVec 32) : Prop :=
  (∀ a, (k0_off1317 v769) a + S1x64.size a ≤ S1000000x64.size a)
instance k0_chk539.dec : ∀ (v769 : BitVec 32), Decidable (k0_chk539 v769) := fun v769 => decidable_of_iff' _ (Iff.of_eq (k0_chk539.eq_1 v769))
theorem k0_off1317_inb : ∀ (v769 : BitVec 32) (k0_hw539 : k0_chk539 v769), ∀ a, (k0_off1317 v769) a + S1x64.size a ≤ S1000000x64.size a := fun v769 k0_hw539 => k0_hw539

def k0_off1318 (k0_t16 : Fin k0_t16_loop.trips) (c3_i32_475 : BitVec 32) : Fin 2 → Nat :=
  let c0_i32_74 : BitVec 32 := 0#32
  let c1_i32_76 : BitVec 32 := 1#32
  let arg13 : BitVec 32 := Scf.iv c0_i32_74 c1_i32_76 k0_t16
  let c16_i32_451 : BitVec 32 := 16#32
  let v720 : BitVec 32 := Scalar.muli arg13 c16_i32_451
  let c9_i32 : BitVec 32 := 9#32
  let v721 : BitVec 32 := Scalar.addi v720 c9_i32
  let c5_i32_474 : BitVec 32 := 5#32
  let v770 : BitVec 32 := Scalar.muli v721 c5_i32_474
  let v771 : BitVec 32 := Scalar.addi v770 c3_i32_475
  let c0_i32_478 : BitVec 32 := 0#32
  ![v771.toNat, 0]
def k0_off1319 (v781 : BitVec 32) : Fin 2 → Nat :=
  let c0_i32_483 : BitVec 32 := 0#32
  ![v781.toNat, 0]

def k0_chk540 (v781 : BitVec 32) : Prop :=
  (∀ a, (k0_off1319 v781) a + S1x64.size a ≤ S1000000x64.size a)
instance k0_chk540.dec : ∀ (v781 : BitVec 32), Decidable (k0_chk540 v781) := fun v781 => decidable_of_iff' _ (Iff.of_eq (k0_chk540.eq_1 v781))
theorem k0_off1319_inb : ∀ (v781 : BitVec 32) (k0_hw540 : k0_chk540 v781), ∀ a, (k0_off1319 v781) a + S1x64.size a ≤ S1000000x64.size a := fun v781 k0_hw540 => k0_hw540

def k0_off1320 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_451 : BitVec 32 := 16#32
  let v720 : BitVec 32 := Scalar.muli arg13 c16_i32_451
  let c9_i32 : BitVec 32 := 9#32
  let v721 : BitVec 32 := Scalar.addi v720 c9_i32
  let c5_i32_480 : BitVec 32 := 5#32
  let v782 : BitVec 32 := Scalar.muli v721 c5_i32_480
  let c4_i32_481 : BitVec 32 := 4#32
  let v783 : BitVec 32 := Scalar.addi v782 c4_i32_481
  let c0_i32_484 : BitVec 32 := 0#32
  ![v783.toNat, 0]
def k0_off1321 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_486 : BitVec 32 := 16#32
  let v792 : BitVec 32 := Scalar.muli arg13 c16_i32_486
  let c10_i32 : BitVec 32 := 10#32
  let v793 : BitVec 32 := Scalar.addi v792 c10_i32
  let c0_i32_487 : BitVec 32 := 0#32
  ![v793.toNat, 0]
def k0_off1322 (v795 : BitVec 32) : Fin 2 → Nat :=
  let c0_i32_488 : BitVec 32 := 0#32
  ![v795.toNat, 0]

def k0_chk541 (v795 : BitVec 32) : Prop :=
  (∀ a, (k0_off1322 v795) a + S1x64.size a ≤ S1000000x64.size a)
instance k0_chk541.dec : ∀ (v795 : BitVec 32), Decidable (k0_chk541 v795) := fun v795 => decidable_of_iff' _ (Iff.of_eq (k0_chk541.eq_1 v795))
theorem k0_off1322_inb : ∀ (v795 : BitVec 32) (k0_hw541 : k0_chk541 v795), ∀ a, (k0_off1322 v795) a + S1x64.size a ≤ S1000000x64.size a := fun v795 k0_hw541 => k0_hw541

def k0_off1323 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_486 : BitVec 32 := 16#32
  let v792 : BitVec 32 := Scalar.muli arg13 c16_i32_486
  let c10_i32 : BitVec 32 := 10#32
  let v793 : BitVec 32 := Scalar.addi v792 c10_i32
  let c0_i32_489 : BitVec 32 := 0#32
  ![v793.toNat, 0]
def k0_off1324 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_486 : BitVec 32 := 16#32
  let v792 : BitVec 32 := Scalar.muli arg13 c16_i32_486
  let c10_i32 : BitVec 32 := 10#32
  let v793 : BitVec 32 := Scalar.addi v792 c10_i32
  let c5_i32_491 : BitVec 32 := 5#32
  let v806 : BitVec 32 := Scalar.muli v793 c5_i32_491
  let c0_i32_492 : BitVec 32 := 0#32
  let v807 : BitVec 32 := Scalar.addi v806 c0_i32_492
  let c0_i32_493 : BitVec 32 := 0#32
  ![v807.toNat, 0]
def k0_off1325 (v805 : BitVec 32) : Fin 2 → Nat :=
  let c0_i32_494 : BitVec 32 := 0#32
  ![v805.toNat, 0]

def k0_chk542 (v805 : BitVec 32) : Prop :=
  (∀ a, (k0_off1325 v805) a + S1x64.size a ≤ S1000000x64.size a)
instance k0_chk542.dec : ∀ (v805 : BitVec 32), Decidable (k0_chk542 v805) := fun v805 => decidable_of_iff' _ (Iff.of_eq (k0_chk542.eq_1 v805))
theorem k0_off1325_inb : ∀ (v805 : BitVec 32) (k0_hw542 : k0_chk542 v805), ∀ a, (k0_off1325 v805) a + S1x64.size a ≤ S1000000x64.size a := fun v805 k0_hw542 => k0_hw542

def k0_off1326 (k0_t16 : Fin k0_t16_loop.trips) (c0_i32_492 : BitVec 32) : Fin 2 → Nat :=
  let c0_i32_74 : BitVec 32 := 0#32
  let c1_i32_76 : BitVec 32 := 1#32
  let arg13 : BitVec 32 := Scf.iv c0_i32_74 c1_i32_76 k0_t16
  let c16_i32_486 : BitVec 32 := 16#32
  let v792 : BitVec 32 := Scalar.muli arg13 c16_i32_486
  let c10_i32 : BitVec 32 := 10#32
  let v793 : BitVec 32 := Scalar.addi v792 c10_i32
  let c5_i32_491 : BitVec 32 := 5#32
  let v806 : BitVec 32 := Scalar.muli v793 c5_i32_491
  let v807 : BitVec 32 := Scalar.addi v806 c0_i32_492
  let c0_i32_495 : BitVec 32 := 0#32
  ![v807.toNat, 0]
def k0_off1327 (v817 : BitVec 32) : Fin 2 → Nat :=
  let c0_i32_500 : BitVec 32 := 0#32
  ![v817.toNat, 0]

def k0_chk543 (v817 : BitVec 32) : Prop :=
  (∀ a, (k0_off1327 v817) a + S1x64.size a ≤ S1000000x64.size a)
instance k0_chk543.dec : ∀ (v817 : BitVec 32), Decidable (k0_chk543 v817) := fun v817 => decidable_of_iff' _ (Iff.of_eq (k0_chk543.eq_1 v817))
theorem k0_off1327_inb : ∀ (v817 : BitVec 32) (k0_hw543 : k0_chk543 v817), ∀ a, (k0_off1327 v817) a + S1x64.size a ≤ S1000000x64.size a := fun v817 k0_hw543 => k0_hw543

def k0_off1328 (k0_t16 : Fin k0_t16_loop.trips) (c1_i32_498 : BitVec 32) : Fin 2 → Nat :=
  let c0_i32_74 : BitVec 32 := 0#32
  let c1_i32_76 : BitVec 32 := 1#32
  let arg13 : BitVec 32 := Scf.iv c0_i32_74 c1_i32_76 k0_t16
  let c16_i32_486 : BitVec 32 := 16#32
  let v792 : BitVec 32 := Scalar.muli arg13 c16_i32_486
  let c10_i32 : BitVec 32 := 10#32
  let v793 : BitVec 32 := Scalar.addi v792 c10_i32
  let c5_i32_497 : BitVec 32 := 5#32
  let v818 : BitVec 32 := Scalar.muli v793 c5_i32_497
  let v819 : BitVec 32 := Scalar.addi v818 c1_i32_498
  let c0_i32_501 : BitVec 32 := 0#32
  ![v819.toNat, 0]
def k0_off1329 (v829 : BitVec 32) : Fin 2 → Nat :=
  let c0_i32_506 : BitVec 32 := 0#32
  ![v829.toNat, 0]

def k0_chk544 (v829 : BitVec 32) : Prop :=
  (∀ a, (k0_off1329 v829) a + S1x64.size a ≤ S1000000x64.size a)
instance k0_chk544.dec : ∀ (v829 : BitVec 32), Decidable (k0_chk544 v829) := fun v829 => decidable_of_iff' _ (Iff.of_eq (k0_chk544.eq_1 v829))
theorem k0_off1329_inb : ∀ (v829 : BitVec 32) (k0_hw544 : k0_chk544 v829), ∀ a, (k0_off1329 v829) a + S1x64.size a ≤ S1000000x64.size a := fun v829 k0_hw544 => k0_hw544

def k0_off1330 (k0_t16 : Fin k0_t16_loop.trips) (c2_i32_504 : BitVec 32) : Fin 2 → Nat :=
  let c0_i32_74 : BitVec 32 := 0#32
  let c1_i32_76 : BitVec 32 := 1#32
  let arg13 : BitVec 32 := Scf.iv c0_i32_74 c1_i32_76 k0_t16
  let c16_i32_486 : BitVec 32 := 16#32
  let v792 : BitVec 32 := Scalar.muli arg13 c16_i32_486
  let c10_i32 : BitVec 32 := 10#32
  let v793 : BitVec 32 := Scalar.addi v792 c10_i32
  let c5_i32_503 : BitVec 32 := 5#32
  let v830 : BitVec 32 := Scalar.muli v793 c5_i32_503
  let v831 : BitVec 32 := Scalar.addi v830 c2_i32_504
  let c0_i32_507 : BitVec 32 := 0#32
  ![v831.toNat, 0]
def k0_off1331 (v841 : BitVec 32) : Fin 2 → Nat :=
  let c0_i32_512 : BitVec 32 := 0#32
  ![v841.toNat, 0]

def k0_chk545 (v841 : BitVec 32) : Prop :=
  (∀ a, (k0_off1331 v841) a + S1x64.size a ≤ S1000000x64.size a)
instance k0_chk545.dec : ∀ (v841 : BitVec 32), Decidable (k0_chk545 v841) := fun v841 => decidable_of_iff' _ (Iff.of_eq (k0_chk545.eq_1 v841))
theorem k0_off1331_inb : ∀ (v841 : BitVec 32) (k0_hw545 : k0_chk545 v841), ∀ a, (k0_off1331 v841) a + S1x64.size a ≤ S1000000x64.size a := fun v841 k0_hw545 => k0_hw545

def k0_off1332 (k0_t16 : Fin k0_t16_loop.trips) (c3_i32_510 : BitVec 32) : Fin 2 → Nat :=
  let c0_i32_74 : BitVec 32 := 0#32
  let c1_i32_76 : BitVec 32 := 1#32
  let arg13 : BitVec 32 := Scf.iv c0_i32_74 c1_i32_76 k0_t16
  let c16_i32_486 : BitVec 32 := 16#32
  let v792 : BitVec 32 := Scalar.muli arg13 c16_i32_486
  let c10_i32 : BitVec 32 := 10#32
  let v793 : BitVec 32 := Scalar.addi v792 c10_i32
  let c5_i32_509 : BitVec 32 := 5#32
  let v842 : BitVec 32 := Scalar.muli v793 c5_i32_509
  let v843 : BitVec 32 := Scalar.addi v842 c3_i32_510
  let c0_i32_513 : BitVec 32 := 0#32
  ![v843.toNat, 0]
def k0_off1333 (v853 : BitVec 32) : Fin 2 → Nat :=
  let c0_i32_518 : BitVec 32 := 0#32
  ![v853.toNat, 0]

def k0_chk546 (v853 : BitVec 32) : Prop :=
  (∀ a, (k0_off1333 v853) a + S1x64.size a ≤ S1000000x64.size a)
instance k0_chk546.dec : ∀ (v853 : BitVec 32), Decidable (k0_chk546 v853) := fun v853 => decidable_of_iff' _ (Iff.of_eq (k0_chk546.eq_1 v853))
theorem k0_off1333_inb : ∀ (v853 : BitVec 32) (k0_hw546 : k0_chk546 v853), ∀ a, (k0_off1333 v853) a + S1x64.size a ≤ S1000000x64.size a := fun v853 k0_hw546 => k0_hw546

def k0_off1334 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_486 : BitVec 32 := 16#32
  let v792 : BitVec 32 := Scalar.muli arg13 c16_i32_486
  let c10_i32 : BitVec 32 := 10#32
  let v793 : BitVec 32 := Scalar.addi v792 c10_i32
  let c5_i32_515 : BitVec 32 := 5#32
  let v854 : BitVec 32 := Scalar.muli v793 c5_i32_515
  let c4_i32_516 : BitVec 32 := 4#32
  let v855 : BitVec 32 := Scalar.addi v854 c4_i32_516
  let c0_i32_519 : BitVec 32 := 0#32
  ![v855.toNat, 0]
def k0_off1335 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_521 : BitVec 32 := 16#32
  let v864 : BitVec 32 := Scalar.muli arg13 c16_i32_521
  let c11_i32 : BitVec 32 := 11#32
  let v865 : BitVec 32 := Scalar.addi v864 c11_i32
  let c0_i32_522 : BitVec 32 := 0#32
  ![v865.toNat, 0]
def k0_off1336 (v867 : BitVec 32) : Fin 2 → Nat :=
  let c0_i32_523 : BitVec 32 := 0#32
  ![v867.toNat, 0]

def k0_chk547 (v867 : BitVec 32) : Prop :=
  (∀ a, (k0_off1336 v867) a + S1x64.size a ≤ S1000000x64.size a)
instance k0_chk547.dec : ∀ (v867 : BitVec 32), Decidable (k0_chk547 v867) := fun v867 => decidable_of_iff' _ (Iff.of_eq (k0_chk547.eq_1 v867))
theorem k0_off1336_inb : ∀ (v867 : BitVec 32) (k0_hw547 : k0_chk547 v867), ∀ a, (k0_off1336 v867) a + S1x64.size a ≤ S1000000x64.size a := fun v867 k0_hw547 => k0_hw547

def k0_off1337 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_521 : BitVec 32 := 16#32
  let v864 : BitVec 32 := Scalar.muli arg13 c16_i32_521
  let c11_i32 : BitVec 32 := 11#32
  let v865 : BitVec 32 := Scalar.addi v864 c11_i32
  let c0_i32_524 : BitVec 32 := 0#32
  ![v865.toNat, 0]
def k0_off1338 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_521 : BitVec 32 := 16#32
  let v864 : BitVec 32 := Scalar.muli arg13 c16_i32_521
  let c11_i32 : BitVec 32 := 11#32
  let v865 : BitVec 32 := Scalar.addi v864 c11_i32
  let c5_i32_526 : BitVec 32 := 5#32
  let v878 : BitVec 32 := Scalar.muli v865 c5_i32_526
  let c0_i32_527 : BitVec 32 := 0#32
  let v879 : BitVec 32 := Scalar.addi v878 c0_i32_527
  let c0_i32_528 : BitVec 32 := 0#32
  ![v879.toNat, 0]
def k0_off1339 (v877 : BitVec 32) : Fin 2 → Nat :=
  let c0_i32_529 : BitVec 32 := 0#32
  ![v877.toNat, 0]

def k0_chk548 (v877 : BitVec 32) : Prop :=
  (∀ a, (k0_off1339 v877) a + S1x64.size a ≤ S1000000x64.size a)
instance k0_chk548.dec : ∀ (v877 : BitVec 32), Decidable (k0_chk548 v877) := fun v877 => decidable_of_iff' _ (Iff.of_eq (k0_chk548.eq_1 v877))
theorem k0_off1339_inb : ∀ (v877 : BitVec 32) (k0_hw548 : k0_chk548 v877), ∀ a, (k0_off1339 v877) a + S1x64.size a ≤ S1000000x64.size a := fun v877 k0_hw548 => k0_hw548

def k0_off1340 (k0_t16 : Fin k0_t16_loop.trips) (c0_i32_527 : BitVec 32) : Fin 2 → Nat :=
  let c0_i32_74 : BitVec 32 := 0#32
  let c1_i32_76 : BitVec 32 := 1#32
  let arg13 : BitVec 32 := Scf.iv c0_i32_74 c1_i32_76 k0_t16
  let c16_i32_521 : BitVec 32 := 16#32
  let v864 : BitVec 32 := Scalar.muli arg13 c16_i32_521
  let c11_i32 : BitVec 32 := 11#32
  let v865 : BitVec 32 := Scalar.addi v864 c11_i32
  let c5_i32_526 : BitVec 32 := 5#32
  let v878 : BitVec 32 := Scalar.muli v865 c5_i32_526
  let v879 : BitVec 32 := Scalar.addi v878 c0_i32_527
  let c0_i32_530 : BitVec 32 := 0#32
  ![v879.toNat, 0]
def k0_off1341 (v889 : BitVec 32) : Fin 2 → Nat :=
  let c0_i32_535 : BitVec 32 := 0#32
  ![v889.toNat, 0]

def k0_chk549 (v889 : BitVec 32) : Prop :=
  (∀ a, (k0_off1341 v889) a + S1x64.size a ≤ S1000000x64.size a)
instance k0_chk549.dec : ∀ (v889 : BitVec 32), Decidable (k0_chk549 v889) := fun v889 => decidable_of_iff' _ (Iff.of_eq (k0_chk549.eq_1 v889))
theorem k0_off1341_inb : ∀ (v889 : BitVec 32) (k0_hw549 : k0_chk549 v889), ∀ a, (k0_off1341 v889) a + S1x64.size a ≤ S1000000x64.size a := fun v889 k0_hw549 => k0_hw549

def k0_off1342 (k0_t16 : Fin k0_t16_loop.trips) (c1_i32_533 : BitVec 32) : Fin 2 → Nat :=
  let c0_i32_74 : BitVec 32 := 0#32
  let c1_i32_76 : BitVec 32 := 1#32
  let arg13 : BitVec 32 := Scf.iv c0_i32_74 c1_i32_76 k0_t16
  let c16_i32_521 : BitVec 32 := 16#32
  let v864 : BitVec 32 := Scalar.muli arg13 c16_i32_521
  let c11_i32 : BitVec 32 := 11#32
  let v865 : BitVec 32 := Scalar.addi v864 c11_i32
  let c5_i32_532 : BitVec 32 := 5#32
  let v890 : BitVec 32 := Scalar.muli v865 c5_i32_532
  let v891 : BitVec 32 := Scalar.addi v890 c1_i32_533
  let c0_i32_536 : BitVec 32 := 0#32
  ![v891.toNat, 0]
def k0_off1343 (v901 : BitVec 32) : Fin 2 → Nat :=
  let c0_i32_541 : BitVec 32 := 0#32
  ![v901.toNat, 0]

def k0_chk550 (v901 : BitVec 32) : Prop :=
  (∀ a, (k0_off1343 v901) a + S1x64.size a ≤ S1000000x64.size a)
instance k0_chk550.dec : ∀ (v901 : BitVec 32), Decidable (k0_chk550 v901) := fun v901 => decidable_of_iff' _ (Iff.of_eq (k0_chk550.eq_1 v901))
theorem k0_off1343_inb : ∀ (v901 : BitVec 32) (k0_hw550 : k0_chk550 v901), ∀ a, (k0_off1343 v901) a + S1x64.size a ≤ S1000000x64.size a := fun v901 k0_hw550 => k0_hw550

def k0_off1344 (k0_t16 : Fin k0_t16_loop.trips) (c2_i32_539 : BitVec 32) : Fin 2 → Nat :=
  let c0_i32_74 : BitVec 32 := 0#32
  let c1_i32_76 : BitVec 32 := 1#32
  let arg13 : BitVec 32 := Scf.iv c0_i32_74 c1_i32_76 k0_t16
  let c16_i32_521 : BitVec 32 := 16#32
  let v864 : BitVec 32 := Scalar.muli arg13 c16_i32_521
  let c11_i32 : BitVec 32 := 11#32
  let v865 : BitVec 32 := Scalar.addi v864 c11_i32
  let c5_i32_538 : BitVec 32 := 5#32
  let v902 : BitVec 32 := Scalar.muli v865 c5_i32_538
  let v903 : BitVec 32 := Scalar.addi v902 c2_i32_539
  let c0_i32_542 : BitVec 32 := 0#32
  ![v903.toNat, 0]
def k0_off1345 (v913 : BitVec 32) : Fin 2 → Nat :=
  let c0_i32_547 : BitVec 32 := 0#32
  ![v913.toNat, 0]

def k0_chk551 (v913 : BitVec 32) : Prop :=
  (∀ a, (k0_off1345 v913) a + S1x64.size a ≤ S1000000x64.size a)
instance k0_chk551.dec : ∀ (v913 : BitVec 32), Decidable (k0_chk551 v913) := fun v913 => decidable_of_iff' _ (Iff.of_eq (k0_chk551.eq_1 v913))
theorem k0_off1345_inb : ∀ (v913 : BitVec 32) (k0_hw551 : k0_chk551 v913), ∀ a, (k0_off1345 v913) a + S1x64.size a ≤ S1000000x64.size a := fun v913 k0_hw551 => k0_hw551

def k0_off1346 (k0_t16 : Fin k0_t16_loop.trips) (c3_i32_545 : BitVec 32) : Fin 2 → Nat :=
  let c0_i32_74 : BitVec 32 := 0#32
  let c1_i32_76 : BitVec 32 := 1#32
  let arg13 : BitVec 32 := Scf.iv c0_i32_74 c1_i32_76 k0_t16
  let c16_i32_521 : BitVec 32 := 16#32
  let v864 : BitVec 32 := Scalar.muli arg13 c16_i32_521
  let c11_i32 : BitVec 32 := 11#32
  let v865 : BitVec 32 := Scalar.addi v864 c11_i32
  let c5_i32_544 : BitVec 32 := 5#32
  let v914 : BitVec 32 := Scalar.muli v865 c5_i32_544
  let v915 : BitVec 32 := Scalar.addi v914 c3_i32_545
  let c0_i32_548 : BitVec 32 := 0#32
  ![v915.toNat, 0]
def k0_off1347 (v925 : BitVec 32) : Fin 2 → Nat :=
  let c0_i32_553 : BitVec 32 := 0#32
  ![v925.toNat, 0]

def k0_chk552 (v925 : BitVec 32) : Prop :=
  (∀ a, (k0_off1347 v925) a + S1x64.size a ≤ S1000000x64.size a)
instance k0_chk552.dec : ∀ (v925 : BitVec 32), Decidable (k0_chk552 v925) := fun v925 => decidable_of_iff' _ (Iff.of_eq (k0_chk552.eq_1 v925))
theorem k0_off1347_inb : ∀ (v925 : BitVec 32) (k0_hw552 : k0_chk552 v925), ∀ a, (k0_off1347 v925) a + S1x64.size a ≤ S1000000x64.size a := fun v925 k0_hw552 => k0_hw552

def k0_off1348 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_521 : BitVec 32 := 16#32
  let v864 : BitVec 32 := Scalar.muli arg13 c16_i32_521
  let c11_i32 : BitVec 32 := 11#32
  let v865 : BitVec 32 := Scalar.addi v864 c11_i32
  let c5_i32_550 : BitVec 32 := 5#32
  let v926 : BitVec 32 := Scalar.muli v865 c5_i32_550
  let c4_i32_551 : BitVec 32 := 4#32
  let v927 : BitVec 32 := Scalar.addi v926 c4_i32_551
  let c0_i32_554 : BitVec 32 := 0#32
  ![v927.toNat, 0]
def k0_off1349 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_556 : BitVec 32 := 16#32
  let v936 : BitVec 32 := Scalar.muli arg13 c16_i32_556
  let c12_i32 : BitVec 32 := 12#32
  let v937 : BitVec 32 := Scalar.addi v936 c12_i32
  let c0_i32_557 : BitVec 32 := 0#32
  ![v937.toNat, 0]
def k0_off1350 (v939 : BitVec 32) : Fin 2 → Nat :=
  let c0_i32_558 : BitVec 32 := 0#32
  ![v939.toNat, 0]

def k0_chk553 (v939 : BitVec 32) : Prop :=
  (∀ a, (k0_off1350 v939) a + S1x64.size a ≤ S1000000x64.size a)
instance k0_chk553.dec : ∀ (v939 : BitVec 32), Decidable (k0_chk553 v939) := fun v939 => decidable_of_iff' _ (Iff.of_eq (k0_chk553.eq_1 v939))
theorem k0_off1350_inb : ∀ (v939 : BitVec 32) (k0_hw553 : k0_chk553 v939), ∀ a, (k0_off1350 v939) a + S1x64.size a ≤ S1000000x64.size a := fun v939 k0_hw553 => k0_hw553

def k0_off1351 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_556 : BitVec 32 := 16#32
  let v936 : BitVec 32 := Scalar.muli arg13 c16_i32_556
  let c12_i32 : BitVec 32 := 12#32
  let v937 : BitVec 32 := Scalar.addi v936 c12_i32
  let c0_i32_559 : BitVec 32 := 0#32
  ![v937.toNat, 0]
def k0_off1352 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_556 : BitVec 32 := 16#32
  let v936 : BitVec 32 := Scalar.muli arg13 c16_i32_556
  let c12_i32 : BitVec 32 := 12#32
  let v937 : BitVec 32 := Scalar.addi v936 c12_i32
  let c5_i32_561 : BitVec 32 := 5#32
  let v950 : BitVec 32 := Scalar.muli v937 c5_i32_561
  let c0_i32_562 : BitVec 32 := 0#32
  let v951 : BitVec 32 := Scalar.addi v950 c0_i32_562
  let c0_i32_563 : BitVec 32 := 0#32
  ![v951.toNat, 0]
def k0_off1353 (v949 : BitVec 32) : Fin 2 → Nat :=
  let c0_i32_564 : BitVec 32 := 0#32
  ![v949.toNat, 0]

def k0_chk554 (v949 : BitVec 32) : Prop :=
  (∀ a, (k0_off1353 v949) a + S1x64.size a ≤ S1000000x64.size a)
instance k0_chk554.dec : ∀ (v949 : BitVec 32), Decidable (k0_chk554 v949) := fun v949 => decidable_of_iff' _ (Iff.of_eq (k0_chk554.eq_1 v949))
theorem k0_off1353_inb : ∀ (v949 : BitVec 32) (k0_hw554 : k0_chk554 v949), ∀ a, (k0_off1353 v949) a + S1x64.size a ≤ S1000000x64.size a := fun v949 k0_hw554 => k0_hw554

def k0_off1354 (k0_t16 : Fin k0_t16_loop.trips) (c0_i32_562 : BitVec 32) : Fin 2 → Nat :=
  let c0_i32_74 : BitVec 32 := 0#32
  let c1_i32_76 : BitVec 32 := 1#32
  let arg13 : BitVec 32 := Scf.iv c0_i32_74 c1_i32_76 k0_t16
  let c16_i32_556 : BitVec 32 := 16#32
  let v936 : BitVec 32 := Scalar.muli arg13 c16_i32_556
  let c12_i32 : BitVec 32 := 12#32
  let v937 : BitVec 32 := Scalar.addi v936 c12_i32
  let c5_i32_561 : BitVec 32 := 5#32
  let v950 : BitVec 32 := Scalar.muli v937 c5_i32_561
  let v951 : BitVec 32 := Scalar.addi v950 c0_i32_562
  let c0_i32_565 : BitVec 32 := 0#32
  ![v951.toNat, 0]
def k0_off1355 (v961 : BitVec 32) : Fin 2 → Nat :=
  let c0_i32_570 : BitVec 32 := 0#32
  ![v961.toNat, 0]

def k0_chk555 (v961 : BitVec 32) : Prop :=
  (∀ a, (k0_off1355 v961) a + S1x64.size a ≤ S1000000x64.size a)
instance k0_chk555.dec : ∀ (v961 : BitVec 32), Decidable (k0_chk555 v961) := fun v961 => decidable_of_iff' _ (Iff.of_eq (k0_chk555.eq_1 v961))
theorem k0_off1355_inb : ∀ (v961 : BitVec 32) (k0_hw555 : k0_chk555 v961), ∀ a, (k0_off1355 v961) a + S1x64.size a ≤ S1000000x64.size a := fun v961 k0_hw555 => k0_hw555

def k0_off1356 (k0_t16 : Fin k0_t16_loop.trips) (c1_i32_568 : BitVec 32) : Fin 2 → Nat :=
  let c0_i32_74 : BitVec 32 := 0#32
  let c1_i32_76 : BitVec 32 := 1#32
  let arg13 : BitVec 32 := Scf.iv c0_i32_74 c1_i32_76 k0_t16
  let c16_i32_556 : BitVec 32 := 16#32
  let v936 : BitVec 32 := Scalar.muli arg13 c16_i32_556
  let c12_i32 : BitVec 32 := 12#32
  let v937 : BitVec 32 := Scalar.addi v936 c12_i32
  let c5_i32_567 : BitVec 32 := 5#32
  let v962 : BitVec 32 := Scalar.muli v937 c5_i32_567
  let v963 : BitVec 32 := Scalar.addi v962 c1_i32_568
  let c0_i32_571 : BitVec 32 := 0#32
  ![v963.toNat, 0]
def k0_off1357 (v973 : BitVec 32) : Fin 2 → Nat :=
  let c0_i32_576 : BitVec 32 := 0#32
  ![v973.toNat, 0]

def k0_chk556 (v973 : BitVec 32) : Prop :=
  (∀ a, (k0_off1357 v973) a + S1x64.size a ≤ S1000000x64.size a)
instance k0_chk556.dec : ∀ (v973 : BitVec 32), Decidable (k0_chk556 v973) := fun v973 => decidable_of_iff' _ (Iff.of_eq (k0_chk556.eq_1 v973))
theorem k0_off1357_inb : ∀ (v973 : BitVec 32) (k0_hw556 : k0_chk556 v973), ∀ a, (k0_off1357 v973) a + S1x64.size a ≤ S1000000x64.size a := fun v973 k0_hw556 => k0_hw556

def k0_off1358 (k0_t16 : Fin k0_t16_loop.trips) (c2_i32_574 : BitVec 32) : Fin 2 → Nat :=
  let c0_i32_74 : BitVec 32 := 0#32
  let c1_i32_76 : BitVec 32 := 1#32
  let arg13 : BitVec 32 := Scf.iv c0_i32_74 c1_i32_76 k0_t16
  let c16_i32_556 : BitVec 32 := 16#32
  let v936 : BitVec 32 := Scalar.muli arg13 c16_i32_556
  let c12_i32 : BitVec 32 := 12#32
  let v937 : BitVec 32 := Scalar.addi v936 c12_i32
  let c5_i32_573 : BitVec 32 := 5#32
  let v974 : BitVec 32 := Scalar.muli v937 c5_i32_573
  let v975 : BitVec 32 := Scalar.addi v974 c2_i32_574
  let c0_i32_577 : BitVec 32 := 0#32
  ![v975.toNat, 0]
def k0_off1359 (v985 : BitVec 32) : Fin 2 → Nat :=
  let c0_i32_582 : BitVec 32 := 0#32
  ![v985.toNat, 0]

def k0_chk557 (v985 : BitVec 32) : Prop :=
  (∀ a, (k0_off1359 v985) a + S1x64.size a ≤ S1000000x64.size a)
instance k0_chk557.dec : ∀ (v985 : BitVec 32), Decidable (k0_chk557 v985) := fun v985 => decidable_of_iff' _ (Iff.of_eq (k0_chk557.eq_1 v985))
theorem k0_off1359_inb : ∀ (v985 : BitVec 32) (k0_hw557 : k0_chk557 v985), ∀ a, (k0_off1359 v985) a + S1x64.size a ≤ S1000000x64.size a := fun v985 k0_hw557 => k0_hw557

def k0_off1360 (k0_t16 : Fin k0_t16_loop.trips) (c3_i32_580 : BitVec 32) : Fin 2 → Nat :=
  let c0_i32_74 : BitVec 32 := 0#32
  let c1_i32_76 : BitVec 32 := 1#32
  let arg13 : BitVec 32 := Scf.iv c0_i32_74 c1_i32_76 k0_t16
  let c16_i32_556 : BitVec 32 := 16#32
  let v936 : BitVec 32 := Scalar.muli arg13 c16_i32_556
  let c12_i32 : BitVec 32 := 12#32
  let v937 : BitVec 32 := Scalar.addi v936 c12_i32
  let c5_i32_579 : BitVec 32 := 5#32
  let v986 : BitVec 32 := Scalar.muli v937 c5_i32_579
  let v987 : BitVec 32 := Scalar.addi v986 c3_i32_580
  let c0_i32_583 : BitVec 32 := 0#32
  ![v987.toNat, 0]
def k0_off1361 (v997 : BitVec 32) : Fin 2 → Nat :=
  let c0_i32_588 : BitVec 32 := 0#32
  ![v997.toNat, 0]

def k0_chk558 (v997 : BitVec 32) : Prop :=
  (∀ a, (k0_off1361 v997) a + S1x64.size a ≤ S1000000x64.size a)
instance k0_chk558.dec : ∀ (v997 : BitVec 32), Decidable (k0_chk558 v997) := fun v997 => decidable_of_iff' _ (Iff.of_eq (k0_chk558.eq_1 v997))
theorem k0_off1361_inb : ∀ (v997 : BitVec 32) (k0_hw558 : k0_chk558 v997), ∀ a, (k0_off1361 v997) a + S1x64.size a ≤ S1000000x64.size a := fun v997 k0_hw558 => k0_hw558

def k0_off1362 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_556 : BitVec 32 := 16#32
  let v936 : BitVec 32 := Scalar.muli arg13 c16_i32_556
  let c12_i32 : BitVec 32 := 12#32
  let v937 : BitVec 32 := Scalar.addi v936 c12_i32
  let c5_i32_585 : BitVec 32 := 5#32
  let v998 : BitVec 32 := Scalar.muli v937 c5_i32_585
  let c4_i32_586 : BitVec 32 := 4#32
  let v999 : BitVec 32 := Scalar.addi v998 c4_i32_586
  let c0_i32_589 : BitVec 32 := 0#32
  ![v999.toNat, 0]
def k0_off1363 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_591 : BitVec 32 := 16#32
  let v1008 : BitVec 32 := Scalar.muli arg13 c16_i32_591
  let c13_i32 : BitVec 32 := 13#32
  let v1009 : BitVec 32 := Scalar.addi v1008 c13_i32
  let c0_i32_592 : BitVec 32 := 0#32
  ![v1009.toNat, 0]
def k0_off1364 (v1011 : BitVec 32) : Fin 2 → Nat :=
  let c0_i32_593 : BitVec 32 := 0#32
  ![v1011.toNat, 0]

def k0_chk559 (v1011 : BitVec 32) : Prop :=
  (∀ a, (k0_off1364 v1011) a + S1x64.size a ≤ S1000000x64.size a)
instance k0_chk559.dec : ∀ (v1011 : BitVec 32), Decidable (k0_chk559 v1011) := fun v1011 => decidable_of_iff' _ (Iff.of_eq (k0_chk559.eq_1 v1011))
theorem k0_off1364_inb : ∀ (v1011 : BitVec 32) (k0_hw559 : k0_chk559 v1011), ∀ a, (k0_off1364 v1011) a + S1x64.size a ≤ S1000000x64.size a := fun v1011 k0_hw559 => k0_hw559

def k0_off1365 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_591 : BitVec 32 := 16#32
  let v1008 : BitVec 32 := Scalar.muli arg13 c16_i32_591
  let c13_i32 : BitVec 32 := 13#32
  let v1009 : BitVec 32 := Scalar.addi v1008 c13_i32
  let c0_i32_594 : BitVec 32 := 0#32
  ![v1009.toNat, 0]
def k0_off1366 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_591 : BitVec 32 := 16#32
  let v1008 : BitVec 32 := Scalar.muli arg13 c16_i32_591
  let c13_i32 : BitVec 32 := 13#32
  let v1009 : BitVec 32 := Scalar.addi v1008 c13_i32
  let c5_i32_596 : BitVec 32 := 5#32
  let v1022 : BitVec 32 := Scalar.muli v1009 c5_i32_596
  let c0_i32_597 : BitVec 32 := 0#32
  let v1023 : BitVec 32 := Scalar.addi v1022 c0_i32_597
  let c0_i32_598 : BitVec 32 := 0#32
  ![v1023.toNat, 0]
def k0_off1367 (v1021 : BitVec 32) : Fin 2 → Nat :=
  let c0_i32_599 : BitVec 32 := 0#32
  ![v1021.toNat, 0]

def k0_chk560 (v1021 : BitVec 32) : Prop :=
  (∀ a, (k0_off1367 v1021) a + S1x64.size a ≤ S1000000x64.size a)
instance k0_chk560.dec : ∀ (v1021 : BitVec 32), Decidable (k0_chk560 v1021) := fun v1021 => decidable_of_iff' _ (Iff.of_eq (k0_chk560.eq_1 v1021))
theorem k0_off1367_inb : ∀ (v1021 : BitVec 32) (k0_hw560 : k0_chk560 v1021), ∀ a, (k0_off1367 v1021) a + S1x64.size a ≤ S1000000x64.size a := fun v1021 k0_hw560 => k0_hw560

def k0_off1368 (k0_t16 : Fin k0_t16_loop.trips) (c0_i32_597 : BitVec 32) : Fin 2 → Nat :=
  let c0_i32_74 : BitVec 32 := 0#32
  let c1_i32_76 : BitVec 32 := 1#32
  let arg13 : BitVec 32 := Scf.iv c0_i32_74 c1_i32_76 k0_t16
  let c16_i32_591 : BitVec 32 := 16#32
  let v1008 : BitVec 32 := Scalar.muli arg13 c16_i32_591
  let c13_i32 : BitVec 32 := 13#32
  let v1009 : BitVec 32 := Scalar.addi v1008 c13_i32
  let c5_i32_596 : BitVec 32 := 5#32
  let v1022 : BitVec 32 := Scalar.muli v1009 c5_i32_596
  let v1023 : BitVec 32 := Scalar.addi v1022 c0_i32_597
  let c0_i32_600 : BitVec 32 := 0#32
  ![v1023.toNat, 0]
def k0_off1369 (v1033 : BitVec 32) : Fin 2 → Nat :=
  let c0_i32_605 : BitVec 32 := 0#32
  ![v1033.toNat, 0]

def k0_chk561 (v1033 : BitVec 32) : Prop :=
  (∀ a, (k0_off1369 v1033) a + S1x64.size a ≤ S1000000x64.size a)
instance k0_chk561.dec : ∀ (v1033 : BitVec 32), Decidable (k0_chk561 v1033) := fun v1033 => decidable_of_iff' _ (Iff.of_eq (k0_chk561.eq_1 v1033))
theorem k0_off1369_inb : ∀ (v1033 : BitVec 32) (k0_hw561 : k0_chk561 v1033), ∀ a, (k0_off1369 v1033) a + S1x64.size a ≤ S1000000x64.size a := fun v1033 k0_hw561 => k0_hw561

def k0_off1370 (k0_t16 : Fin k0_t16_loop.trips) (c1_i32_603 : BitVec 32) : Fin 2 → Nat :=
  let c0_i32_74 : BitVec 32 := 0#32
  let c1_i32_76 : BitVec 32 := 1#32
  let arg13 : BitVec 32 := Scf.iv c0_i32_74 c1_i32_76 k0_t16
  let c16_i32_591 : BitVec 32 := 16#32
  let v1008 : BitVec 32 := Scalar.muli arg13 c16_i32_591
  let c13_i32 : BitVec 32 := 13#32
  let v1009 : BitVec 32 := Scalar.addi v1008 c13_i32
  let c5_i32_602 : BitVec 32 := 5#32
  let v1034 : BitVec 32 := Scalar.muli v1009 c5_i32_602
  let v1035 : BitVec 32 := Scalar.addi v1034 c1_i32_603
  let c0_i32_606 : BitVec 32 := 0#32
  ![v1035.toNat, 0]
def k0_off1371 (v1045 : BitVec 32) : Fin 2 → Nat :=
  let c0_i32_611 : BitVec 32 := 0#32
  ![v1045.toNat, 0]

def k0_chk562 (v1045 : BitVec 32) : Prop :=
  (∀ a, (k0_off1371 v1045) a + S1x64.size a ≤ S1000000x64.size a)
instance k0_chk562.dec : ∀ (v1045 : BitVec 32), Decidable (k0_chk562 v1045) := fun v1045 => decidable_of_iff' _ (Iff.of_eq (k0_chk562.eq_1 v1045))
theorem k0_off1371_inb : ∀ (v1045 : BitVec 32) (k0_hw562 : k0_chk562 v1045), ∀ a, (k0_off1371 v1045) a + S1x64.size a ≤ S1000000x64.size a := fun v1045 k0_hw562 => k0_hw562

def k0_off1372 (k0_t16 : Fin k0_t16_loop.trips) (c2_i32_609 : BitVec 32) : Fin 2 → Nat :=
  let c0_i32_74 : BitVec 32 := 0#32
  let c1_i32_76 : BitVec 32 := 1#32
  let arg13 : BitVec 32 := Scf.iv c0_i32_74 c1_i32_76 k0_t16
  let c16_i32_591 : BitVec 32 := 16#32
  let v1008 : BitVec 32 := Scalar.muli arg13 c16_i32_591
  let c13_i32 : BitVec 32 := 13#32
  let v1009 : BitVec 32 := Scalar.addi v1008 c13_i32
  let c5_i32_608 : BitVec 32 := 5#32
  let v1046 : BitVec 32 := Scalar.muli v1009 c5_i32_608
  let v1047 : BitVec 32 := Scalar.addi v1046 c2_i32_609
  let c0_i32_612 : BitVec 32 := 0#32
  ![v1047.toNat, 0]
def k0_off1373 (v1057 : BitVec 32) : Fin 2 → Nat :=
  let c0_i32_617 : BitVec 32 := 0#32
  ![v1057.toNat, 0]

def k0_chk563 (v1057 : BitVec 32) : Prop :=
  (∀ a, (k0_off1373 v1057) a + S1x64.size a ≤ S1000000x64.size a)
instance k0_chk563.dec : ∀ (v1057 : BitVec 32), Decidable (k0_chk563 v1057) := fun v1057 => decidable_of_iff' _ (Iff.of_eq (k0_chk563.eq_1 v1057))
theorem k0_off1373_inb : ∀ (v1057 : BitVec 32) (k0_hw563 : k0_chk563 v1057), ∀ a, (k0_off1373 v1057) a + S1x64.size a ≤ S1000000x64.size a := fun v1057 k0_hw563 => k0_hw563

def k0_off1374 (k0_t16 : Fin k0_t16_loop.trips) (c3_i32_615 : BitVec 32) : Fin 2 → Nat :=
  let c0_i32_74 : BitVec 32 := 0#32
  let c1_i32_76 : BitVec 32 := 1#32
  let arg13 : BitVec 32 := Scf.iv c0_i32_74 c1_i32_76 k0_t16
  let c16_i32_591 : BitVec 32 := 16#32
  let v1008 : BitVec 32 := Scalar.muli arg13 c16_i32_591
  let c13_i32 : BitVec 32 := 13#32
  let v1009 : BitVec 32 := Scalar.addi v1008 c13_i32
  let c5_i32_614 : BitVec 32 := 5#32
  let v1058 : BitVec 32 := Scalar.muli v1009 c5_i32_614
  let v1059 : BitVec 32 := Scalar.addi v1058 c3_i32_615
  let c0_i32_618 : BitVec 32 := 0#32
  ![v1059.toNat, 0]
def k0_off1375 (v1069 : BitVec 32) : Fin 2 → Nat :=
  let c0_i32_623 : BitVec 32 := 0#32
  ![v1069.toNat, 0]

def k0_chk564 (v1069 : BitVec 32) : Prop :=
  (∀ a, (k0_off1375 v1069) a + S1x64.size a ≤ S1000000x64.size a)
instance k0_chk564.dec : ∀ (v1069 : BitVec 32), Decidable (k0_chk564 v1069) := fun v1069 => decidable_of_iff' _ (Iff.of_eq (k0_chk564.eq_1 v1069))
theorem k0_off1375_inb : ∀ (v1069 : BitVec 32) (k0_hw564 : k0_chk564 v1069), ∀ a, (k0_off1375 v1069) a + S1x64.size a ≤ S1000000x64.size a := fun v1069 k0_hw564 => k0_hw564

def k0_off1376 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_591 : BitVec 32 := 16#32
  let v1008 : BitVec 32 := Scalar.muli arg13 c16_i32_591
  let c13_i32 : BitVec 32 := 13#32
  let v1009 : BitVec 32 := Scalar.addi v1008 c13_i32
  let c5_i32_620 : BitVec 32 := 5#32
  let v1070 : BitVec 32 := Scalar.muli v1009 c5_i32_620
  let c4_i32_621 : BitVec 32 := 4#32
  let v1071 : BitVec 32 := Scalar.addi v1070 c4_i32_621
  let c0_i32_624 : BitVec 32 := 0#32
  ![v1071.toNat, 0]
def k0_off1377 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_626 : BitVec 32 := 16#32
  let v1080 : BitVec 32 := Scalar.muli arg13 c16_i32_626
  let c14_i32 : BitVec 32 := 14#32
  let v1081 : BitVec 32 := Scalar.addi v1080 c14_i32
  let c0_i32_627 : BitVec 32 := 0#32
  ![v1081.toNat, 0]
def k0_off1378 (v1083 : BitVec 32) : Fin 2 → Nat :=
  let c0_i32_628 : BitVec 32 := 0#32
  ![v1083.toNat, 0]

def k0_chk565 (v1083 : BitVec 32) : Prop :=
  (∀ a, (k0_off1378 v1083) a + S1x64.size a ≤ S1000000x64.size a)
instance k0_chk565.dec : ∀ (v1083 : BitVec 32), Decidable (k0_chk565 v1083) := fun v1083 => decidable_of_iff' _ (Iff.of_eq (k0_chk565.eq_1 v1083))
theorem k0_off1378_inb : ∀ (v1083 : BitVec 32) (k0_hw565 : k0_chk565 v1083), ∀ a, (k0_off1378 v1083) a + S1x64.size a ≤ S1000000x64.size a := fun v1083 k0_hw565 => k0_hw565

def k0_off1379 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_626 : BitVec 32 := 16#32
  let v1080 : BitVec 32 := Scalar.muli arg13 c16_i32_626
  let c14_i32 : BitVec 32 := 14#32
  let v1081 : BitVec 32 := Scalar.addi v1080 c14_i32
  let c0_i32_629 : BitVec 32 := 0#32
  ![v1081.toNat, 0]
def k0_off1380 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_626 : BitVec 32 := 16#32
  let v1080 : BitVec 32 := Scalar.muli arg13 c16_i32_626
  let c14_i32 : BitVec 32 := 14#32
  let v1081 : BitVec 32 := Scalar.addi v1080 c14_i32
  let c5_i32_631 : BitVec 32 := 5#32
  let v1094 : BitVec 32 := Scalar.muli v1081 c5_i32_631
  let c0_i32_632 : BitVec 32 := 0#32
  let v1095 : BitVec 32 := Scalar.addi v1094 c0_i32_632
  let c0_i32_633 : BitVec 32 := 0#32
  ![v1095.toNat, 0]
def k0_off1381 (v1093 : BitVec 32) : Fin 2 → Nat :=
  let c0_i32_634 : BitVec 32 := 0#32
  ![v1093.toNat, 0]

def k0_chk566 (v1093 : BitVec 32) : Prop :=
  (∀ a, (k0_off1381 v1093) a + S1x64.size a ≤ S1000000x64.size a)
instance k0_chk566.dec : ∀ (v1093 : BitVec 32), Decidable (k0_chk566 v1093) := fun v1093 => decidable_of_iff' _ (Iff.of_eq (k0_chk566.eq_1 v1093))
theorem k0_off1381_inb : ∀ (v1093 : BitVec 32) (k0_hw566 : k0_chk566 v1093), ∀ a, (k0_off1381 v1093) a + S1x64.size a ≤ S1000000x64.size a := fun v1093 k0_hw566 => k0_hw566

def k0_off1382 (k0_t16 : Fin k0_t16_loop.trips) (c0_i32_632 : BitVec 32) : Fin 2 → Nat :=
  let c0_i32_74 : BitVec 32 := 0#32
  let c1_i32_76 : BitVec 32 := 1#32
  let arg13 : BitVec 32 := Scf.iv c0_i32_74 c1_i32_76 k0_t16
  let c16_i32_626 : BitVec 32 := 16#32
  let v1080 : BitVec 32 := Scalar.muli arg13 c16_i32_626
  let c14_i32 : BitVec 32 := 14#32
  let v1081 : BitVec 32 := Scalar.addi v1080 c14_i32
  let c5_i32_631 : BitVec 32 := 5#32
  let v1094 : BitVec 32 := Scalar.muli v1081 c5_i32_631
  let v1095 : BitVec 32 := Scalar.addi v1094 c0_i32_632
  let c0_i32_635 : BitVec 32 := 0#32
  ![v1095.toNat, 0]
def k0_off1383 (v1105 : BitVec 32) : Fin 2 → Nat :=
  let c0_i32_640 : BitVec 32 := 0#32
  ![v1105.toNat, 0]

def k0_chk567 (v1105 : BitVec 32) : Prop :=
  (∀ a, (k0_off1383 v1105) a + S1x64.size a ≤ S1000000x64.size a)
instance k0_chk567.dec : ∀ (v1105 : BitVec 32), Decidable (k0_chk567 v1105) := fun v1105 => decidable_of_iff' _ (Iff.of_eq (k0_chk567.eq_1 v1105))
theorem k0_off1383_inb : ∀ (v1105 : BitVec 32) (k0_hw567 : k0_chk567 v1105), ∀ a, (k0_off1383 v1105) a + S1x64.size a ≤ S1000000x64.size a := fun v1105 k0_hw567 => k0_hw567

def k0_off1384 (k0_t16 : Fin k0_t16_loop.trips) (c1_i32_638 : BitVec 32) : Fin 2 → Nat :=
  let c0_i32_74 : BitVec 32 := 0#32
  let c1_i32_76 : BitVec 32 := 1#32
  let arg13 : BitVec 32 := Scf.iv c0_i32_74 c1_i32_76 k0_t16
  let c16_i32_626 : BitVec 32 := 16#32
  let v1080 : BitVec 32 := Scalar.muli arg13 c16_i32_626
  let c14_i32 : BitVec 32 := 14#32
  let v1081 : BitVec 32 := Scalar.addi v1080 c14_i32
  let c5_i32_637 : BitVec 32 := 5#32
  let v1106 : BitVec 32 := Scalar.muli v1081 c5_i32_637
  let v1107 : BitVec 32 := Scalar.addi v1106 c1_i32_638
  let c0_i32_641 : BitVec 32 := 0#32
  ![v1107.toNat, 0]
def k0_off1385 (v1117 : BitVec 32) : Fin 2 → Nat :=
  let c0_i32_646 : BitVec 32 := 0#32
  ![v1117.toNat, 0]

def k0_chk568 (v1117 : BitVec 32) : Prop :=
  (∀ a, (k0_off1385 v1117) a + S1x64.size a ≤ S1000000x64.size a)
instance k0_chk568.dec : ∀ (v1117 : BitVec 32), Decidable (k0_chk568 v1117) := fun v1117 => decidable_of_iff' _ (Iff.of_eq (k0_chk568.eq_1 v1117))
theorem k0_off1385_inb : ∀ (v1117 : BitVec 32) (k0_hw568 : k0_chk568 v1117), ∀ a, (k0_off1385 v1117) a + S1x64.size a ≤ S1000000x64.size a := fun v1117 k0_hw568 => k0_hw568

def k0_off1386 (k0_t16 : Fin k0_t16_loop.trips) (c2_i32_644 : BitVec 32) : Fin 2 → Nat :=
  let c0_i32_74 : BitVec 32 := 0#32
  let c1_i32_76 : BitVec 32 := 1#32
  let arg13 : BitVec 32 := Scf.iv c0_i32_74 c1_i32_76 k0_t16
  let c16_i32_626 : BitVec 32 := 16#32
  let v1080 : BitVec 32 := Scalar.muli arg13 c16_i32_626
  let c14_i32 : BitVec 32 := 14#32
  let v1081 : BitVec 32 := Scalar.addi v1080 c14_i32
  let c5_i32_643 : BitVec 32 := 5#32
  let v1118 : BitVec 32 := Scalar.muli v1081 c5_i32_643
  let v1119 : BitVec 32 := Scalar.addi v1118 c2_i32_644
  let c0_i32_647 : BitVec 32 := 0#32
  ![v1119.toNat, 0]
def k0_off1387 (v1129 : BitVec 32) : Fin 2 → Nat :=
  let c0_i32_652 : BitVec 32 := 0#32
  ![v1129.toNat, 0]

def k0_chk569 (v1129 : BitVec 32) : Prop :=
  (∀ a, (k0_off1387 v1129) a + S1x64.size a ≤ S1000000x64.size a)
instance k0_chk569.dec : ∀ (v1129 : BitVec 32), Decidable (k0_chk569 v1129) := fun v1129 => decidable_of_iff' _ (Iff.of_eq (k0_chk569.eq_1 v1129))
theorem k0_off1387_inb : ∀ (v1129 : BitVec 32) (k0_hw569 : k0_chk569 v1129), ∀ a, (k0_off1387 v1129) a + S1x64.size a ≤ S1000000x64.size a := fun v1129 k0_hw569 => k0_hw569

def k0_off1388 (k0_t16 : Fin k0_t16_loop.trips) (c3_i32_650 : BitVec 32) : Fin 2 → Nat :=
  let c0_i32_74 : BitVec 32 := 0#32
  let c1_i32_76 : BitVec 32 := 1#32
  let arg13 : BitVec 32 := Scf.iv c0_i32_74 c1_i32_76 k0_t16
  let c16_i32_626 : BitVec 32 := 16#32
  let v1080 : BitVec 32 := Scalar.muli arg13 c16_i32_626
  let c14_i32 : BitVec 32 := 14#32
  let v1081 : BitVec 32 := Scalar.addi v1080 c14_i32
  let c5_i32_649 : BitVec 32 := 5#32
  let v1130 : BitVec 32 := Scalar.muli v1081 c5_i32_649
  let v1131 : BitVec 32 := Scalar.addi v1130 c3_i32_650
  let c0_i32_653 : BitVec 32 := 0#32
  ![v1131.toNat, 0]
def k0_off1389 (v1141 : BitVec 32) : Fin 2 → Nat :=
  let c0_i32_658 : BitVec 32 := 0#32
  ![v1141.toNat, 0]

def k0_chk570 (v1141 : BitVec 32) : Prop :=
  (∀ a, (k0_off1389 v1141) a + S1x64.size a ≤ S1000000x64.size a)
instance k0_chk570.dec : ∀ (v1141 : BitVec 32), Decidable (k0_chk570 v1141) := fun v1141 => decidable_of_iff' _ (Iff.of_eq (k0_chk570.eq_1 v1141))
theorem k0_off1389_inb : ∀ (v1141 : BitVec 32) (k0_hw570 : k0_chk570 v1141), ∀ a, (k0_off1389 v1141) a + S1x64.size a ≤ S1000000x64.size a := fun v1141 k0_hw570 => k0_hw570

def k0_off1390 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_626 : BitVec 32 := 16#32
  let v1080 : BitVec 32 := Scalar.muli arg13 c16_i32_626
  let c14_i32 : BitVec 32 := 14#32
  let v1081 : BitVec 32 := Scalar.addi v1080 c14_i32
  let c5_i32_655 : BitVec 32 := 5#32
  let v1142 : BitVec 32 := Scalar.muli v1081 c5_i32_655
  let c4_i32_656 : BitVec 32 := 4#32
  let v1143 : BitVec 32 := Scalar.addi v1142 c4_i32_656
  let c0_i32_659 : BitVec 32 := 0#32
  ![v1143.toNat, 0]
def k0_off1391 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_661 : BitVec 32 := 16#32
  let v1152 : BitVec 32 := Scalar.muli arg13 c16_i32_661
  let c15_i32 : BitVec 32 := 15#32
  let v1153 : BitVec 32 := Scalar.addi v1152 c15_i32
  let c0_i32_662 : BitVec 32 := 0#32
  ![v1153.toNat, 0]
def k0_off1392 (v1155 : BitVec 32) : Fin 2 → Nat :=
  let c0_i32_663 : BitVec 32 := 0#32
  ![v1155.toNat, 0]

def k0_chk571 (v1155 : BitVec 32) : Prop :=
  (∀ a, (k0_off1392 v1155) a + S1x64.size a ≤ S1000000x64.size a)
instance k0_chk571.dec : ∀ (v1155 : BitVec 32), Decidable (k0_chk571 v1155) := fun v1155 => decidable_of_iff' _ (Iff.of_eq (k0_chk571.eq_1 v1155))
theorem k0_off1392_inb : ∀ (v1155 : BitVec 32) (k0_hw571 : k0_chk571 v1155), ∀ a, (k0_off1392 v1155) a + S1x64.size a ≤ S1000000x64.size a := fun v1155 k0_hw571 => k0_hw571

def k0_off1393 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_661 : BitVec 32 := 16#32
  let v1152 : BitVec 32 := Scalar.muli arg13 c16_i32_661
  let c15_i32 : BitVec 32 := 15#32
  let v1153 : BitVec 32 := Scalar.addi v1152 c15_i32
  let c0_i32_664 : BitVec 32 := 0#32
  ![v1153.toNat, 0]
def k0_off1394 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_661 : BitVec 32 := 16#32
  let v1152 : BitVec 32 := Scalar.muli arg13 c16_i32_661
  let c15_i32 : BitVec 32 := 15#32
  let v1153 : BitVec 32 := Scalar.addi v1152 c15_i32
  let c5_i32_666 : BitVec 32 := 5#32
  let v1166 : BitVec 32 := Scalar.muli v1153 c5_i32_666
  let c0_i32_667 : BitVec 32 := 0#32
  let v1167 : BitVec 32 := Scalar.addi v1166 c0_i32_667
  let c0_i32_668 : BitVec 32 := 0#32
  ![v1167.toNat, 0]
def k0_off1395 (v1165 : BitVec 32) : Fin 2 → Nat :=
  let c0_i32_669 : BitVec 32 := 0#32
  ![v1165.toNat, 0]

def k0_chk572 (v1165 : BitVec 32) : Prop :=
  (∀ a, (k0_off1395 v1165) a + S1x64.size a ≤ S1000000x64.size a)
instance k0_chk572.dec : ∀ (v1165 : BitVec 32), Decidable (k0_chk572 v1165) := fun v1165 => decidable_of_iff' _ (Iff.of_eq (k0_chk572.eq_1 v1165))
theorem k0_off1395_inb : ∀ (v1165 : BitVec 32) (k0_hw572 : k0_chk572 v1165), ∀ a, (k0_off1395 v1165) a + S1x64.size a ≤ S1000000x64.size a := fun v1165 k0_hw572 => k0_hw572

def k0_off1396 (k0_t16 : Fin k0_t16_loop.trips) (c0_i32_667 : BitVec 32) : Fin 2 → Nat :=
  let c0_i32_74 : BitVec 32 := 0#32
  let c1_i32_76 : BitVec 32 := 1#32
  let arg13 : BitVec 32 := Scf.iv c0_i32_74 c1_i32_76 k0_t16
  let c16_i32_661 : BitVec 32 := 16#32
  let v1152 : BitVec 32 := Scalar.muli arg13 c16_i32_661
  let c15_i32 : BitVec 32 := 15#32
  let v1153 : BitVec 32 := Scalar.addi v1152 c15_i32
  let c5_i32_666 : BitVec 32 := 5#32
  let v1166 : BitVec 32 := Scalar.muli v1153 c5_i32_666
  let v1167 : BitVec 32 := Scalar.addi v1166 c0_i32_667
  let c0_i32_670 : BitVec 32 := 0#32
  ![v1167.toNat, 0]
def k0_off1397 (v1177 : BitVec 32) : Fin 2 → Nat :=
  let c0_i32_675 : BitVec 32 := 0#32
  ![v1177.toNat, 0]

def k0_chk573 (v1177 : BitVec 32) : Prop :=
  (∀ a, (k0_off1397 v1177) a + S1x64.size a ≤ S1000000x64.size a)
instance k0_chk573.dec : ∀ (v1177 : BitVec 32), Decidable (k0_chk573 v1177) := fun v1177 => decidable_of_iff' _ (Iff.of_eq (k0_chk573.eq_1 v1177))
theorem k0_off1397_inb : ∀ (v1177 : BitVec 32) (k0_hw573 : k0_chk573 v1177), ∀ a, (k0_off1397 v1177) a + S1x64.size a ≤ S1000000x64.size a := fun v1177 k0_hw573 => k0_hw573

def k0_off1398 (k0_t16 : Fin k0_t16_loop.trips) (c1_i32_673 : BitVec 32) : Fin 2 → Nat :=
  let c0_i32_74 : BitVec 32 := 0#32
  let c1_i32_76 : BitVec 32 := 1#32
  let arg13 : BitVec 32 := Scf.iv c0_i32_74 c1_i32_76 k0_t16
  let c16_i32_661 : BitVec 32 := 16#32
  let v1152 : BitVec 32 := Scalar.muli arg13 c16_i32_661
  let c15_i32 : BitVec 32 := 15#32
  let v1153 : BitVec 32 := Scalar.addi v1152 c15_i32
  let c5_i32_672 : BitVec 32 := 5#32
  let v1178 : BitVec 32 := Scalar.muli v1153 c5_i32_672
  let v1179 : BitVec 32 := Scalar.addi v1178 c1_i32_673
  let c0_i32_676 : BitVec 32 := 0#32
  ![v1179.toNat, 0]
def k0_off1399 (v1189 : BitVec 32) : Fin 2 → Nat :=
  let c0_i32_681 : BitVec 32 := 0#32
  ![v1189.toNat, 0]

def k0_chk574 (v1189 : BitVec 32) : Prop :=
  (∀ a, (k0_off1399 v1189) a + S1x64.size a ≤ S1000000x64.size a)
instance k0_chk574.dec : ∀ (v1189 : BitVec 32), Decidable (k0_chk574 v1189) := fun v1189 => decidable_of_iff' _ (Iff.of_eq (k0_chk574.eq_1 v1189))
theorem k0_off1399_inb : ∀ (v1189 : BitVec 32) (k0_hw574 : k0_chk574 v1189), ∀ a, (k0_off1399 v1189) a + S1x64.size a ≤ S1000000x64.size a := fun v1189 k0_hw574 => k0_hw574

def k0_off1400 (k0_t16 : Fin k0_t16_loop.trips) (c2_i32_679 : BitVec 32) : Fin 2 → Nat :=
  let c0_i32_74 : BitVec 32 := 0#32
  let c1_i32_76 : BitVec 32 := 1#32
  let arg13 : BitVec 32 := Scf.iv c0_i32_74 c1_i32_76 k0_t16
  let c16_i32_661 : BitVec 32 := 16#32
  let v1152 : BitVec 32 := Scalar.muli arg13 c16_i32_661
  let c15_i32 : BitVec 32 := 15#32
  let v1153 : BitVec 32 := Scalar.addi v1152 c15_i32
  let c5_i32_678 : BitVec 32 := 5#32
  let v1190 : BitVec 32 := Scalar.muli v1153 c5_i32_678
  let v1191 : BitVec 32 := Scalar.addi v1190 c2_i32_679
  let c0_i32_682 : BitVec 32 := 0#32
  ![v1191.toNat, 0]
def k0_off1401 (v1201 : BitVec 32) : Fin 2 → Nat :=
  let c0_i32_687 : BitVec 32 := 0#32
  ![v1201.toNat, 0]

def k0_chk575 (v1201 : BitVec 32) : Prop :=
  (∀ a, (k0_off1401 v1201) a + S1x64.size a ≤ S1000000x64.size a)
instance k0_chk575.dec : ∀ (v1201 : BitVec 32), Decidable (k0_chk575 v1201) := fun v1201 => decidable_of_iff' _ (Iff.of_eq (k0_chk575.eq_1 v1201))
theorem k0_off1401_inb : ∀ (v1201 : BitVec 32) (k0_hw575 : k0_chk575 v1201), ∀ a, (k0_off1401 v1201) a + S1x64.size a ≤ S1000000x64.size a := fun v1201 k0_hw575 => k0_hw575

def k0_off1402 (k0_t16 : Fin k0_t16_loop.trips) (c3_i32_685 : BitVec 32) : Fin 2 → Nat :=
  let c0_i32_74 : BitVec 32 := 0#32
  let c1_i32_76 : BitVec 32 := 1#32
  let arg13 : BitVec 32 := Scf.iv c0_i32_74 c1_i32_76 k0_t16
  let c16_i32_661 : BitVec 32 := 16#32
  let v1152 : BitVec 32 := Scalar.muli arg13 c16_i32_661
  let c15_i32 : BitVec 32 := 15#32
  let v1153 : BitVec 32 := Scalar.addi v1152 c15_i32
  let c5_i32_684 : BitVec 32 := 5#32
  let v1202 : BitVec 32 := Scalar.muli v1153 c5_i32_684
  let v1203 : BitVec 32 := Scalar.addi v1202 c3_i32_685
  let c0_i32_688 : BitVec 32 := 0#32
  ![v1203.toNat, 0]
def k0_off1403 (v1213 : BitVec 32) : Fin 2 → Nat :=
  let c0_i32_693 : BitVec 32 := 0#32
  ![v1213.toNat, 0]

def k0_chk576 (v1213 : BitVec 32) : Prop :=
  (∀ a, (k0_off1403 v1213) a + S1x64.size a ≤ S1000000x64.size a)
instance k0_chk576.dec : ∀ (v1213 : BitVec 32), Decidable (k0_chk576 v1213) := fun v1213 => decidable_of_iff' _ (Iff.of_eq (k0_chk576.eq_1 v1213))
theorem k0_off1403_inb : ∀ (v1213 : BitVec 32) (k0_hw576 : k0_chk576 v1213), ∀ a, (k0_off1403 v1213) a + S1x64.size a ≤ S1000000x64.size a := fun v1213 k0_hw576 => k0_hw576

def k0_off1404 (k0_t16 : Fin k0_t16_loop.trips) : Fin 2 → Nat :=
  let c0_i32_74 : BitVec 32 := 0#32
  let c1_i32_76 : BitVec 32 := 1#32
  let arg13 : BitVec 32 := Scf.iv c0_i32_74 c1_i32_76 k0_t16
  let c16_i32_661 : BitVec 32 := 16#32
  let v1152 : BitVec 32 := Scalar.muli arg13 c16_i32_661
  let c15_i32 : BitVec 32 := 15#32
  let v1153 : BitVec 32 := Scalar.addi v1152 c15_i32
  let c5_i32_690 : BitVec 32 := 5#32
  let v1214 : BitVec 32 := Scalar.muli v1153 c5_i32_690
  let c4_i32_691 : BitVec 32 := 4#32
  let v1215 : BitVec 32 := Scalar.addi v1214 c4_i32_691
  let c0_i32_694 : BitVec 32 := 0#32
  ![v1215.toNat, 0]
@[reducible] def k0_t17_loop : Scf.Loop 32 :=
  let c0_i32_79 : BitVec 32 := 0#32
  let c64_i32_80 : BitVec 32 := 64#32
  let v25 : BitVec 32 := Scalar.addi c0_i32_79 c64_i32_80
  let c1_i32_81 : BitVec 32 := 1#32
  ⟨c0_i32_79, v25, c1_i32_81⟩
@[reducible] def k0_t18_loop : Scf.Loop 32 :=
  let c0_i32_84 : BitVec 32 := 0#32
  let c64_i32_85 : BitVec 32 := 64#32
  let v26 : BitVec 32 := Scalar.addi c0_i32_84 c64_i32_85
  let c1_i32_86 : BitVec 32 := 1#32
  ⟨c0_i32_84, v26, c1_i32_86⟩
def k0_off1405 (k0_t18 : Fin k0_t18_loop.trips) : Fin 2 → Nat :=
  let c0_i32_84 : BitVec 32 := 0#32
  let c1_i32_86 : BitVec 32 := 1#32
  let arg13 : BitVec 32 := Scf.iv c0_i32_84 c1_i32_86 k0_t18
  let v37 : Index := Scalar.indexCast arg13
  let c0 : Index := 0#32
  ![v37.toNat, 0]
def k0_off1406 (k0_t18 : Fin k0_t18_loop.trips) : Fin 2 → Nat :=
  let c0_i32_84 : BitVec 32 := 0#32
  let c1_i32_86 : BitVec 32 := 1#32
  let arg13 : BitVec 32 := Scf.iv c0_i32_84 c1_i32_86 k0_t18
  let v40 : Index := Scalar.indexCast arg13
  let c16 : Index := 16#32
  ![v40.toNat, 16]
def k0_off1407 (k0_t18 : Fin k0_t18_loop.trips) : Fin 2 → Nat :=
  let c0_i32_84 : BitVec 32 := 0#32
  let c1_i32_86 : BitVec 32 := 1#32
  let arg13 : BitVec 32 := Scf.iv c0_i32_84 c1_i32_86 k0_t18
  let v43 : Index := Scalar.indexCast arg13
  let c32 : Index := 32#32
  ![v43.toNat, 32]
def k0_off1408 (k0_t18 : Fin k0_t18_loop.trips) : Fin 2 → Nat :=
  let c0_i32_84 : BitVec 32 := 0#32
  let c1_i32_86 : BitVec 32 := 1#32
  let arg13 : BitVec 32 := Scf.iv c0_i32_84 c1_i32_86 k0_t18
  let v46 : Index := Scalar.indexCast arg13
  let c48 : Index := 48#32
  ![v46.toNat, 48]
def k0_off1409 (k0_t18 : Fin k0_t18_loop.trips) (c0_i32_121 : BitVec 32) : Fin 2 → Nat :=
  let c0_i32_84 : BitVec 32 := 0#32
  let c1_i32_86 : BitVec 32 := 1#32
  let arg13 : BitVec 32 := Scf.iv c0_i32_84 c1_i32_86 k0_t18
  let c5_i32_120 : BitVec 32 := 5#32
  let v51 : BitVec 32 := Scalar.muli arg13 c5_i32_120
  let v52 : BitVec 32 := Scalar.addi v51 c0_i32_121
  let v53 : Index := Scalar.indexCast v52
  let c0_122 : Index := 0#32
  ![v53.toNat, 0]
def k0_off1410 (k0_t18 : Fin k0_t18_loop.trips) (c0_i32_121 : BitVec 32) : Fin 2 → Nat :=
  let c0_i32_84 : BitVec 32 := 0#32
  let c1_i32_86 : BitVec 32 := 1#32
  let arg13 : BitVec 32 := Scf.iv c0_i32_84 c1_i32_86 k0_t18
  let c5_i32_120 : BitVec 32 := 5#32
  let v51 : BitVec 32 := Scalar.muli arg13 c5_i32_120
  let v52 : BitVec 32 := Scalar.addi v51 c0_i32_121
  let v57 : Index := Scalar.indexCast v52
  let c16_123 : Index := 16#32
  ![v57.toNat, 16]
def k0_off1411 (k0_t18 : Fin k0_t18_loop.trips) (c0_i32_121 : BitVec 32) : Fin 2 → Nat :=
  let c0_i32_84 : BitVec 32 := 0#32
  let c1_i32_86 : BitVec 32 := 1#32
  let arg13 : BitVec 32 := Scf.iv c0_i32_84 c1_i32_86 k0_t18
  let c5_i32_120 : BitVec 32 := 5#32
  let v51 : BitVec 32 := Scalar.muli arg13 c5_i32_120
  let v52 : BitVec 32 := Scalar.addi v51 c0_i32_121
  let v62 : Index := Scalar.indexCast v52
  let c32_124 : Index := 32#32
  ![v62.toNat, 32]
def k0_off1412 (k0_t18 : Fin k0_t18_loop.trips) (c0_i32_121 : BitVec 32) : Fin 2 → Nat :=
  let c0_i32_84 : BitVec 32 := 0#32
  let c1_i32_86 : BitVec 32 := 1#32
  let arg13 : BitVec 32 := Scf.iv c0_i32_84 c1_i32_86 k0_t18
  let c5_i32_120 : BitVec 32 := 5#32
  let v51 : BitVec 32 := Scalar.muli arg13 c5_i32_120
  let v52 : BitVec 32 := Scalar.addi v51 c0_i32_121
  let v67 : Index := Scalar.indexCast v52
  let c48_125 : Index := 48#32
  ![v67.toNat, 48]
def k0_off1413 (k0_t18 : Fin k0_t18_loop.trips) (c0_i32_126 : BitVec 32) : Fin 1 → Nat :=
  let c320_i32_118 : BitVec 32 := 320#32
  let c0_i32_84 : BitVec 32 := 0#32
  let c1_i32_86 : BitVec 32 := 1#32
  let arg13 : BitVec 32 := Scf.iv c0_i32_84 c1_i32_86 k0_t18
  let v49 : BitVec 32 := Scalar.addi c320_i32_118 arg13
  let c80_i32_119 : BitVec 32 := 80#32
  let v50 : BitVec 32 := Scalar.muli v49 c80_i32_119
  let v74 : BitVec 32 := Scalar.addi v50 c0_i32_126
  let v75 : Index := Scalar.indexCast v74
  ![v75.toNat]
@[reducible] def k0_t19_loop : Scf.Loop 32 :=
  let c0_i32_89 : BitVec 32 := 0#32
  let c4_i32_90 : BitVec 32 := 4#32
  let v28 : BitVec 32 := Scalar.addi c0_i32_89 c4_i32_90
  let c1_i32_91 : BitVec 32 := 1#32
  ⟨c0_i32_89, v28, c1_i32_91⟩
def k0_off1414 (k0_t19 : Fin k0_t19_loop.trips) : Fin 1 → Nat :=
  let c384_i32_118 : BitVec 32 := 384#32
  let c0_i32_89 : BitVec 32 := 0#32
  let c1_i32_91 : BitVec 32 := 1#32
  let arg13 : BitVec 32 := Scf.iv c0_i32_89 c1_i32_91 k0_t19
  let c16_i32 : BitVec 32 := 16#32
  let v37 : BitVec 32 := Scalar.muli arg13 c16_i32
  let v38 : BitVec 32 := Scalar.addi c384_i32_118 v37
  let v39 : Index := Scalar.indexCast v38
  ![v39.toNat]
def k0_off1415 (k0_t19 : Fin k0_t19_loop.trips) (c0_i32_120 : BitVec 32) : Fin 1 → Nat :=
  let c1920_i32 : BitVec 32 := 1920#32
  let c0_i32_89 : BitVec 32 := 0#32
  let c1_i32_91 : BitVec 32 := 1#32
  let arg13 : BitVec 32 := Scf.iv c0_i32_89 c1_i32_91 k0_t19
  let c80_i32_119 : BitVec 32 := 80#32
  let v42 : BitVec 32 := Scalar.muli arg13 c80_i32_119
  let v43 : BitVec 32 := Scalar.addi c1920_i32 v42
  let v44 : BitVec 32 := Scalar.addi v43 c0_i32_120
  let v45 : Index := Scalar.indexCast v44
  ![v45.toNat]
def k0_off1416 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_131 : BitVec 32 := 16#32
  let v72 : BitVec 32 := Scalar.muli arg13 c16_i32_131
  let c0_i32_132 : BitVec 32 := 0#32
  let v73 : BitVec 32 := Scalar.addi v72 c0_i32_132
  let c0_i32_133 : BitVec 32 := 0#32
  ![v73.toNat, 0]
def k0_off1417 (v75 : BitVec 32) : Fin 2 → Nat :=
  let c0_i32_134 : BitVec 32 := 0#32
  ![v75.toNat, 0]

def k0_chk577 (v75 : BitVec 32) : Prop :=
  (∀ a, (k0_off1417 v75) a + S1x64.size a ≤ S1000000x64.size a)
instance k0_chk577.dec : ∀ (v75 : BitVec 32), Decidable (k0_chk577 v75) := fun v75 => decidable_of_iff' _ (Iff.of_eq (k0_chk577.eq_1 v75))
theorem k0_off1417_inb : ∀ (v75 : BitVec 32) (k0_hw577 : k0_chk577 v75), ∀ a, (k0_off1417 v75) a + S1x64.size a ≤ S1000000x64.size a := fun v75 k0_hw577 => k0_hw577

def k0_off1418 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_131 : BitVec 32 := 16#32
  let v72 : BitVec 32 := Scalar.muli arg13 c16_i32_131
  let c0_i32_132 : BitVec 32 := 0#32
  let v73 : BitVec 32 := Scalar.addi v72 c0_i32_132
  let c0_i32_135 : BitVec 32 := 0#32
  ![v73.toNat, 0]
def k0_off1419 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_131 : BitVec 32 := 16#32
  let v72 : BitVec 32 := Scalar.muli arg13 c16_i32_131
  let c0_i32_132 : BitVec 32 := 0#32
  let v73 : BitVec 32 := Scalar.addi v72 c0_i32_132
  let c5_i32_137 : BitVec 32 := 5#32
  let v86 : BitVec 32 := Scalar.muli v73 c5_i32_137
  let c0_i32_138 : BitVec 32 := 0#32
  let v87 : BitVec 32 := Scalar.addi v86 c0_i32_138
  let c0_i32_139 : BitVec 32 := 0#32
  ![v87.toNat, 0]
def k0_off1420 (v85 : BitVec 32) : Fin 2 → Nat :=
  let c0_i32_140 : BitVec 32 := 0#32
  ![v85.toNat, 0]

def k0_chk578 (v85 : BitVec 32) : Prop :=
  (∀ a, (k0_off1420 v85) a + S1x64.size a ≤ S1000000x64.size a)
instance k0_chk578.dec : ∀ (v85 : BitVec 32), Decidable (k0_chk578 v85) := fun v85 => decidable_of_iff' _ (Iff.of_eq (k0_chk578.eq_1 v85))
theorem k0_off1420_inb : ∀ (v85 : BitVec 32) (k0_hw578 : k0_chk578 v85), ∀ a, (k0_off1420 v85) a + S1x64.size a ≤ S1000000x64.size a := fun v85 k0_hw578 => k0_hw578

def k0_off1421 (k0_t19 : Fin k0_t19_loop.trips) (c0_i32_138 : BitVec 32) : Fin 2 → Nat :=
  let c0_i32_89 : BitVec 32 := 0#32
  let c1_i32_91 : BitVec 32 := 1#32
  let arg13 : BitVec 32 := Scf.iv c0_i32_89 c1_i32_91 k0_t19
  let c16_i32_131 : BitVec 32 := 16#32
  let v72 : BitVec 32 := Scalar.muli arg13 c16_i32_131
  let c0_i32_132 : BitVec 32 := 0#32
  let v73 : BitVec 32 := Scalar.addi v72 c0_i32_132
  let c5_i32_137 : BitVec 32 := 5#32
  let v86 : BitVec 32 := Scalar.muli v73 c5_i32_137
  let v87 : BitVec 32 := Scalar.addi v86 c0_i32_138
  let c0_i32_141 : BitVec 32 := 0#32
  ![v87.toNat, 0]
def k0_off1422 (v97 : BitVec 32) : Fin 2 → Nat :=
  let c0_i32_146 : BitVec 32 := 0#32
  ![v97.toNat, 0]

def k0_chk579 (v97 : BitVec 32) : Prop :=
  (∀ a, (k0_off1422 v97) a + S1x64.size a ≤ S1000000x64.size a)
instance k0_chk579.dec : ∀ (v97 : BitVec 32), Decidable (k0_chk579 v97) := fun v97 => decidable_of_iff' _ (Iff.of_eq (k0_chk579.eq_1 v97))
theorem k0_off1422_inb : ∀ (v97 : BitVec 32) (k0_hw579 : k0_chk579 v97), ∀ a, (k0_off1422 v97) a + S1x64.size a ≤ S1000000x64.size a := fun v97 k0_hw579 => k0_hw579

def k0_off1423 (k0_t19 : Fin k0_t19_loop.trips) (c1_i32_144 : BitVec 32) : Fin 2 → Nat :=
  let c0_i32_89 : BitVec 32 := 0#32
  let c1_i32_91 : BitVec 32 := 1#32
  let arg13 : BitVec 32 := Scf.iv c0_i32_89 c1_i32_91 k0_t19
  let c16_i32_131 : BitVec 32 := 16#32
  let v72 : BitVec 32 := Scalar.muli arg13 c16_i32_131
  let c0_i32_132 : BitVec 32 := 0#32
  let v73 : BitVec 32 := Scalar.addi v72 c0_i32_132
  let c5_i32_143 : BitVec 32 := 5#32
  let v98 : BitVec 32 := Scalar.muli v73 c5_i32_143
  let v99 : BitVec 32 := Scalar.addi v98 c1_i32_144
  let c0_i32_147 : BitVec 32 := 0#32
  ![v99.toNat, 0]
def k0_off1424 (v109 : BitVec 32) : Fin 2 → Nat :=
  let c0_i32_152 : BitVec 32 := 0#32
  ![v109.toNat, 0]

def k0_chk580 (v109 : BitVec 32) : Prop :=
  (∀ a, (k0_off1424 v109) a + S1x64.size a ≤ S1000000x64.size a)
instance k0_chk580.dec : ∀ (v109 : BitVec 32), Decidable (k0_chk580 v109) := fun v109 => decidable_of_iff' _ (Iff.of_eq (k0_chk580.eq_1 v109))
theorem k0_off1424_inb : ∀ (v109 : BitVec 32) (k0_hw580 : k0_chk580 v109), ∀ a, (k0_off1424 v109) a + S1x64.size a ≤ S1000000x64.size a := fun v109 k0_hw580 => k0_hw580

def k0_off1425 (k0_t19 : Fin k0_t19_loop.trips) (c2_i32_150 : BitVec 32) : Fin 2 → Nat :=
  let c0_i32_89 : BitVec 32 := 0#32
  let c1_i32_91 : BitVec 32 := 1#32
  let arg13 : BitVec 32 := Scf.iv c0_i32_89 c1_i32_91 k0_t19
  let c16_i32_131 : BitVec 32 := 16#32
  let v72 : BitVec 32 := Scalar.muli arg13 c16_i32_131
  let c0_i32_132 : BitVec 32 := 0#32
  let v73 : BitVec 32 := Scalar.addi v72 c0_i32_132
  let c5_i32_149 : BitVec 32 := 5#32
  let v110 : BitVec 32 := Scalar.muli v73 c5_i32_149
  let v111 : BitVec 32 := Scalar.addi v110 c2_i32_150
  let c0_i32_153 : BitVec 32 := 0#32
  ![v111.toNat, 0]
def k0_off1426 (v121 : BitVec 32) : Fin 2 → Nat :=
  let c0_i32_157 : BitVec 32 := 0#32
  ![v121.toNat, 0]

def k0_chk581 (v121 : BitVec 32) : Prop :=
  (∀ a, (k0_off1426 v121) a + S1x64.size a ≤ S1000000x64.size a)
instance k0_chk581.dec : ∀ (v121 : BitVec 32), Decidable (k0_chk581 v121) := fun v121 => decidable_of_iff' _ (Iff.of_eq (k0_chk581.eq_1 v121))
theorem k0_off1426_inb : ∀ (v121 : BitVec 32) (k0_hw581 : k0_chk581 v121), ∀ a, (k0_off1426 v121) a + S1x64.size a ≤ S1000000x64.size a := fun v121 k0_hw581 => k0_hw581

def k0_off1427 (k0_t19 : Fin k0_t19_loop.trips) (c3_i32 : BitVec 32) : Fin 2 → Nat :=
  let c0_i32_89 : BitVec 32 := 0#32
  let c1_i32_91 : BitVec 32 := 1#32
  let arg13 : BitVec 32 := Scf.iv c0_i32_89 c1_i32_91 k0_t19
  let c16_i32_131 : BitVec 32 := 16#32
  let v72 : BitVec 32 := Scalar.muli arg13 c16_i32_131
  let c0_i32_132 : BitVec 32 := 0#32
  let v73 : BitVec 32 := Scalar.addi v72 c0_i32_132
  let c5_i32_155 : BitVec 32 := 5#32
  let v122 : BitVec 32 := Scalar.muli v73 c5_i32_155
  let v123 : BitVec 32 := Scalar.addi v122 c3_i32
  let c0_i32_158 : BitVec 32 := 0#32
  ![v123.toNat, 0]
def k0_off1428 (v133 : BitVec 32) : Fin 2 → Nat :=
  let c0_i32_163 : BitVec 32 := 0#32
  ![v133.toNat, 0]

def k0_chk582 (v133 : BitVec 32) : Prop :=
  (∀ a, (k0_off1428 v133) a + S1x64.size a ≤ S1000000x64.size a)
instance k0_chk582.dec : ∀ (v133 : BitVec 32), Decidable (k0_chk582 v133) := fun v133 => decidable_of_iff' _ (Iff.of_eq (k0_chk582.eq_1 v133))
theorem k0_off1428_inb : ∀ (v133 : BitVec 32) (k0_hw582 : k0_chk582 v133), ∀ a, (k0_off1428 v133) a + S1x64.size a ≤ S1000000x64.size a := fun v133 k0_hw582 => k0_hw582

def k0_off1429 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_131 : BitVec 32 := 16#32
  let v72 : BitVec 32 := Scalar.muli arg13 c16_i32_131
  let c0_i32_132 : BitVec 32 := 0#32
  let v73 : BitVec 32 := Scalar.addi v72 c0_i32_132
  let c5_i32_160 : BitVec 32 := 5#32
  let v134 : BitVec 32 := Scalar.muli v73 c5_i32_160
  let c4_i32_161 : BitVec 32 := 4#32
  let v135 : BitVec 32 := Scalar.addi v134 c4_i32_161
  let c0_i32_164 : BitVec 32 := 0#32
  ![v135.toNat, 0]
def k0_off1430 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_166 : BitVec 32 := 16#32
  let v144 : BitVec 32 := Scalar.muli arg13 c16_i32_166
  let c1_i32_167 : BitVec 32 := 1#32
  let v145 : BitVec 32 := Scalar.addi v144 c1_i32_167
  let c0_i32_168 : BitVec 32 := 0#32
  ![v145.toNat, 0]
def k0_off1431 (v147 : BitVec 32) : Fin 2 → Nat :=
  let c0_i32_169 : BitVec 32 := 0#32
  ![v147.toNat, 0]

def k0_chk583 (v147 : BitVec 32) : Prop :=
  (∀ a, (k0_off1431 v147) a + S1x64.size a ≤ S1000000x64.size a)
instance k0_chk583.dec : ∀ (v147 : BitVec 32), Decidable (k0_chk583 v147) := fun v147 => decidable_of_iff' _ (Iff.of_eq (k0_chk583.eq_1 v147))
theorem k0_off1431_inb : ∀ (v147 : BitVec 32) (k0_hw583 : k0_chk583 v147), ∀ a, (k0_off1431 v147) a + S1x64.size a ≤ S1000000x64.size a := fun v147 k0_hw583 => k0_hw583

def k0_off1432 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_166 : BitVec 32 := 16#32
  let v144 : BitVec 32 := Scalar.muli arg13 c16_i32_166
  let c1_i32_167 : BitVec 32 := 1#32
  let v145 : BitVec 32 := Scalar.addi v144 c1_i32_167
  let c0_i32_170 : BitVec 32 := 0#32
  ![v145.toNat, 0]
def k0_off1433 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_166 : BitVec 32 := 16#32
  let v144 : BitVec 32 := Scalar.muli arg13 c16_i32_166
  let c1_i32_167 : BitVec 32 := 1#32
  let v145 : BitVec 32 := Scalar.addi v144 c1_i32_167
  let c5_i32_172 : BitVec 32 := 5#32
  let v158 : BitVec 32 := Scalar.muli v145 c5_i32_172
  let c0_i32_173 : BitVec 32 := 0#32
  let v159 : BitVec 32 := Scalar.addi v158 c0_i32_173
  let c0_i32_174 : BitVec 32 := 0#32
  ![v159.toNat, 0]
def k0_off1434 (v157 : BitVec 32) : Fin 2 → Nat :=
  let c0_i32_175 : BitVec 32 := 0#32
  ![v157.toNat, 0]

def k0_chk584 (v157 : BitVec 32) : Prop :=
  (∀ a, (k0_off1434 v157) a + S1x64.size a ≤ S1000000x64.size a)
instance k0_chk584.dec : ∀ (v157 : BitVec 32), Decidable (k0_chk584 v157) := fun v157 => decidable_of_iff' _ (Iff.of_eq (k0_chk584.eq_1 v157))
theorem k0_off1434_inb : ∀ (v157 : BitVec 32) (k0_hw584 : k0_chk584 v157), ∀ a, (k0_off1434 v157) a + S1x64.size a ≤ S1000000x64.size a := fun v157 k0_hw584 => k0_hw584

def k0_off1435 (k0_t19 : Fin k0_t19_loop.trips) (c0_i32_173 : BitVec 32) : Fin 2 → Nat :=
  let c0_i32_89 : BitVec 32 := 0#32
  let c1_i32_91 : BitVec 32 := 1#32
  let arg13 : BitVec 32 := Scf.iv c0_i32_89 c1_i32_91 k0_t19
  let c16_i32_166 : BitVec 32 := 16#32
  let v144 : BitVec 32 := Scalar.muli arg13 c16_i32_166
  let c1_i32_167 : BitVec 32 := 1#32
  let v145 : BitVec 32 := Scalar.addi v144 c1_i32_167
  let c5_i32_172 : BitVec 32 := 5#32
  let v158 : BitVec 32 := Scalar.muli v145 c5_i32_172
  let v159 : BitVec 32 := Scalar.addi v158 c0_i32_173
  let c0_i32_176 : BitVec 32 := 0#32
  ![v159.toNat, 0]
def k0_off1436 (v169 : BitVec 32) : Fin 2 → Nat :=
  let c0_i32_181 : BitVec 32 := 0#32
  ![v169.toNat, 0]

def k0_chk585 (v169 : BitVec 32) : Prop :=
  (∀ a, (k0_off1436 v169) a + S1x64.size a ≤ S1000000x64.size a)
instance k0_chk585.dec : ∀ (v169 : BitVec 32), Decidable (k0_chk585 v169) := fun v169 => decidable_of_iff' _ (Iff.of_eq (k0_chk585.eq_1 v169))
theorem k0_off1436_inb : ∀ (v169 : BitVec 32) (k0_hw585 : k0_chk585 v169), ∀ a, (k0_off1436 v169) a + S1x64.size a ≤ S1000000x64.size a := fun v169 k0_hw585 => k0_hw585

def k0_off1437 (k0_t19 : Fin k0_t19_loop.trips) (c1_i32_179 : BitVec 32) : Fin 2 → Nat :=
  let c0_i32_89 : BitVec 32 := 0#32
  let c1_i32_91 : BitVec 32 := 1#32
  let arg13 : BitVec 32 := Scf.iv c0_i32_89 c1_i32_91 k0_t19
  let c16_i32_166 : BitVec 32 := 16#32
  let v144 : BitVec 32 := Scalar.muli arg13 c16_i32_166
  let c1_i32_167 : BitVec 32 := 1#32
  let v145 : BitVec 32 := Scalar.addi v144 c1_i32_167
  let c5_i32_178 : BitVec 32 := 5#32
  let v170 : BitVec 32 := Scalar.muli v145 c5_i32_178
  let v171 : BitVec 32 := Scalar.addi v170 c1_i32_179
  let c0_i32_182 : BitVec 32 := 0#32
  ![v171.toNat, 0]
def k0_off1438 (v181 : BitVec 32) : Fin 2 → Nat :=
  let c0_i32_187 : BitVec 32 := 0#32
  ![v181.toNat, 0]

def k0_chk586 (v181 : BitVec 32) : Prop :=
  (∀ a, (k0_off1438 v181) a + S1x64.size a ≤ S1000000x64.size a)
instance k0_chk586.dec : ∀ (v181 : BitVec 32), Decidable (k0_chk586 v181) := fun v181 => decidable_of_iff' _ (Iff.of_eq (k0_chk586.eq_1 v181))
theorem k0_off1438_inb : ∀ (v181 : BitVec 32) (k0_hw586 : k0_chk586 v181), ∀ a, (k0_off1438 v181) a + S1x64.size a ≤ S1000000x64.size a := fun v181 k0_hw586 => k0_hw586

def k0_off1439 (k0_t19 : Fin k0_t19_loop.trips) (c2_i32_185 : BitVec 32) : Fin 2 → Nat :=
  let c0_i32_89 : BitVec 32 := 0#32
  let c1_i32_91 : BitVec 32 := 1#32
  let arg13 : BitVec 32 := Scf.iv c0_i32_89 c1_i32_91 k0_t19
  let c16_i32_166 : BitVec 32 := 16#32
  let v144 : BitVec 32 := Scalar.muli arg13 c16_i32_166
  let c1_i32_167 : BitVec 32 := 1#32
  let v145 : BitVec 32 := Scalar.addi v144 c1_i32_167
  let c5_i32_184 : BitVec 32 := 5#32
  let v182 : BitVec 32 := Scalar.muli v145 c5_i32_184
  let v183 : BitVec 32 := Scalar.addi v182 c2_i32_185
  let c0_i32_188 : BitVec 32 := 0#32
  ![v183.toNat, 0]
def k0_off1440 (v193 : BitVec 32) : Fin 2 → Nat :=
  let c0_i32_193 : BitVec 32 := 0#32
  ![v193.toNat, 0]

def k0_chk587 (v193 : BitVec 32) : Prop :=
  (∀ a, (k0_off1440 v193) a + S1x64.size a ≤ S1000000x64.size a)
instance k0_chk587.dec : ∀ (v193 : BitVec 32), Decidable (k0_chk587 v193) := fun v193 => decidable_of_iff' _ (Iff.of_eq (k0_chk587.eq_1 v193))
theorem k0_off1440_inb : ∀ (v193 : BitVec 32) (k0_hw587 : k0_chk587 v193), ∀ a, (k0_off1440 v193) a + S1x64.size a ≤ S1000000x64.size a := fun v193 k0_hw587 => k0_hw587

def k0_off1441 (k0_t19 : Fin k0_t19_loop.trips) (c3_i32_191 : BitVec 32) : Fin 2 → Nat :=
  let c0_i32_89 : BitVec 32 := 0#32
  let c1_i32_91 : BitVec 32 := 1#32
  let arg13 : BitVec 32 := Scf.iv c0_i32_89 c1_i32_91 k0_t19
  let c16_i32_166 : BitVec 32 := 16#32
  let v144 : BitVec 32 := Scalar.muli arg13 c16_i32_166
  let c1_i32_167 : BitVec 32 := 1#32
  let v145 : BitVec 32 := Scalar.addi v144 c1_i32_167
  let c5_i32_190 : BitVec 32 := 5#32
  let v194 : BitVec 32 := Scalar.muli v145 c5_i32_190
  let v195 : BitVec 32 := Scalar.addi v194 c3_i32_191
  let c0_i32_194 : BitVec 32 := 0#32
  ![v195.toNat, 0]
def k0_off1442 (v205 : BitVec 32) : Fin 2 → Nat :=
  let c0_i32_199 : BitVec 32 := 0#32
  ![v205.toNat, 0]

def k0_chk588 (v205 : BitVec 32) : Prop :=
  (∀ a, (k0_off1442 v205) a + S1x64.size a ≤ S1000000x64.size a)
instance k0_chk588.dec : ∀ (v205 : BitVec 32), Decidable (k0_chk588 v205) := fun v205 => decidable_of_iff' _ (Iff.of_eq (k0_chk588.eq_1 v205))
theorem k0_off1442_inb : ∀ (v205 : BitVec 32) (k0_hw588 : k0_chk588 v205), ∀ a, (k0_off1442 v205) a + S1x64.size a ≤ S1000000x64.size a := fun v205 k0_hw588 => k0_hw588

def k0_off1443 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_166 : BitVec 32 := 16#32
  let v144 : BitVec 32 := Scalar.muli arg13 c16_i32_166
  let c1_i32_167 : BitVec 32 := 1#32
  let v145 : BitVec 32 := Scalar.addi v144 c1_i32_167
  let c5_i32_196 : BitVec 32 := 5#32
  let v206 : BitVec 32 := Scalar.muli v145 c5_i32_196
  let c4_i32_197 : BitVec 32 := 4#32
  let v207 : BitVec 32 := Scalar.addi v206 c4_i32_197
  let c0_i32_200 : BitVec 32 := 0#32
  ![v207.toNat, 0]
def k0_off1444 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_202 : BitVec 32 := 16#32
  let v216 : BitVec 32 := Scalar.muli arg13 c16_i32_202
  let c2_i32_203 : BitVec 32 := 2#32
  let v217 : BitVec 32 := Scalar.addi v216 c2_i32_203
  let c0_i32_204 : BitVec 32 := 0#32
  ![v217.toNat, 0]
def k0_off1445 (v219 : BitVec 32) : Fin 2 → Nat :=
  let c0_i32_205 : BitVec 32 := 0#32
  ![v219.toNat, 0]

def k0_chk589 (v219 : BitVec 32) : Prop :=
  (∀ a, (k0_off1445 v219) a + S1x64.size a ≤ S1000000x64.size a)
instance k0_chk589.dec : ∀ (v219 : BitVec 32), Decidable (k0_chk589 v219) := fun v219 => decidable_of_iff' _ (Iff.of_eq (k0_chk589.eq_1 v219))
theorem k0_off1445_inb : ∀ (v219 : BitVec 32) (k0_hw589 : k0_chk589 v219), ∀ a, (k0_off1445 v219) a + S1x64.size a ≤ S1000000x64.size a := fun v219 k0_hw589 => k0_hw589

def k0_off1446 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_202 : BitVec 32 := 16#32
  let v216 : BitVec 32 := Scalar.muli arg13 c16_i32_202
  let c2_i32_203 : BitVec 32 := 2#32
  let v217 : BitVec 32 := Scalar.addi v216 c2_i32_203
  let c0_i32_206 : BitVec 32 := 0#32
  ![v217.toNat, 0]
def k0_off1447 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_202 : BitVec 32 := 16#32
  let v216 : BitVec 32 := Scalar.muli arg13 c16_i32_202
  let c2_i32_203 : BitVec 32 := 2#32
  let v217 : BitVec 32 := Scalar.addi v216 c2_i32_203
  let c5_i32_208 : BitVec 32 := 5#32
  let v230 : BitVec 32 := Scalar.muli v217 c5_i32_208
  let c0_i32_209 : BitVec 32 := 0#32
  let v231 : BitVec 32 := Scalar.addi v230 c0_i32_209
  let c0_i32_210 : BitVec 32 := 0#32
  ![v231.toNat, 0]
def k0_off1448 (v229 : BitVec 32) : Fin 2 → Nat :=
  let c0_i32_211 : BitVec 32 := 0#32
  ![v229.toNat, 0]

def k0_chk590 (v229 : BitVec 32) : Prop :=
  (∀ a, (k0_off1448 v229) a + S1x64.size a ≤ S1000000x64.size a)
instance k0_chk590.dec : ∀ (v229 : BitVec 32), Decidable (k0_chk590 v229) := fun v229 => decidable_of_iff' _ (Iff.of_eq (k0_chk590.eq_1 v229))
theorem k0_off1448_inb : ∀ (v229 : BitVec 32) (k0_hw590 : k0_chk590 v229), ∀ a, (k0_off1448 v229) a + S1x64.size a ≤ S1000000x64.size a := fun v229 k0_hw590 => k0_hw590

def k0_off1449 (k0_t19 : Fin k0_t19_loop.trips) (c0_i32_209 : BitVec 32) : Fin 2 → Nat :=
  let c0_i32_89 : BitVec 32 := 0#32
  let c1_i32_91 : BitVec 32 := 1#32
  let arg13 : BitVec 32 := Scf.iv c0_i32_89 c1_i32_91 k0_t19
  let c16_i32_202 : BitVec 32 := 16#32
  let v216 : BitVec 32 := Scalar.muli arg13 c16_i32_202
  let c2_i32_203 : BitVec 32 := 2#32
  let v217 : BitVec 32 := Scalar.addi v216 c2_i32_203
  let c5_i32_208 : BitVec 32 := 5#32
  let v230 : BitVec 32 := Scalar.muli v217 c5_i32_208
  let v231 : BitVec 32 := Scalar.addi v230 c0_i32_209
  let c0_i32_212 : BitVec 32 := 0#32
  ![v231.toNat, 0]
def k0_off1450 (v241 : BitVec 32) : Fin 2 → Nat :=
  let c0_i32_217 : BitVec 32 := 0#32
  ![v241.toNat, 0]

def k0_chk591 (v241 : BitVec 32) : Prop :=
  (∀ a, (k0_off1450 v241) a + S1x64.size a ≤ S1000000x64.size a)
instance k0_chk591.dec : ∀ (v241 : BitVec 32), Decidable (k0_chk591 v241) := fun v241 => decidable_of_iff' _ (Iff.of_eq (k0_chk591.eq_1 v241))
theorem k0_off1450_inb : ∀ (v241 : BitVec 32) (k0_hw591 : k0_chk591 v241), ∀ a, (k0_off1450 v241) a + S1x64.size a ≤ S1000000x64.size a := fun v241 k0_hw591 => k0_hw591

def k0_off1451 (k0_t19 : Fin k0_t19_loop.trips) (c1_i32_215 : BitVec 32) : Fin 2 → Nat :=
  let c0_i32_89 : BitVec 32 := 0#32
  let c1_i32_91 : BitVec 32 := 1#32
  let arg13 : BitVec 32 := Scf.iv c0_i32_89 c1_i32_91 k0_t19
  let c16_i32_202 : BitVec 32 := 16#32
  let v216 : BitVec 32 := Scalar.muli arg13 c16_i32_202
  let c2_i32_203 : BitVec 32 := 2#32
  let v217 : BitVec 32 := Scalar.addi v216 c2_i32_203
  let c5_i32_214 : BitVec 32 := 5#32
  let v242 : BitVec 32 := Scalar.muli v217 c5_i32_214
  let v243 : BitVec 32 := Scalar.addi v242 c1_i32_215
  let c0_i32_218 : BitVec 32 := 0#32
  ![v243.toNat, 0]
def k0_off1452 (v253 : BitVec 32) : Fin 2 → Nat :=
  let c0_i32_223 : BitVec 32 := 0#32
  ![v253.toNat, 0]

def k0_chk592 (v253 : BitVec 32) : Prop :=
  (∀ a, (k0_off1452 v253) a + S1x64.size a ≤ S1000000x64.size a)
instance k0_chk592.dec : ∀ (v253 : BitVec 32), Decidable (k0_chk592 v253) := fun v253 => decidable_of_iff' _ (Iff.of_eq (k0_chk592.eq_1 v253))
theorem k0_off1452_inb : ∀ (v253 : BitVec 32) (k0_hw592 : k0_chk592 v253), ∀ a, (k0_off1452 v253) a + S1x64.size a ≤ S1000000x64.size a := fun v253 k0_hw592 => k0_hw592

def k0_off1453 (k0_t19 : Fin k0_t19_loop.trips) (c2_i32_221 : BitVec 32) : Fin 2 → Nat :=
  let c0_i32_89 : BitVec 32 := 0#32
  let c1_i32_91 : BitVec 32 := 1#32
  let arg13 : BitVec 32 := Scf.iv c0_i32_89 c1_i32_91 k0_t19
  let c16_i32_202 : BitVec 32 := 16#32
  let v216 : BitVec 32 := Scalar.muli arg13 c16_i32_202
  let c2_i32_203 : BitVec 32 := 2#32
  let v217 : BitVec 32 := Scalar.addi v216 c2_i32_203
  let c5_i32_220 : BitVec 32 := 5#32
  let v254 : BitVec 32 := Scalar.muli v217 c5_i32_220
  let v255 : BitVec 32 := Scalar.addi v254 c2_i32_221
  let c0_i32_224 : BitVec 32 := 0#32
  ![v255.toNat, 0]
def k0_off1454 (v265 : BitVec 32) : Fin 2 → Nat :=
  let c0_i32_229 : BitVec 32 := 0#32
  ![v265.toNat, 0]

def k0_chk593 (v265 : BitVec 32) : Prop :=
  (∀ a, (k0_off1454 v265) a + S1x64.size a ≤ S1000000x64.size a)
instance k0_chk593.dec : ∀ (v265 : BitVec 32), Decidable (k0_chk593 v265) := fun v265 => decidable_of_iff' _ (Iff.of_eq (k0_chk593.eq_1 v265))
theorem k0_off1454_inb : ∀ (v265 : BitVec 32) (k0_hw593 : k0_chk593 v265), ∀ a, (k0_off1454 v265) a + S1x64.size a ≤ S1000000x64.size a := fun v265 k0_hw593 => k0_hw593

def k0_off1455 (k0_t19 : Fin k0_t19_loop.trips) (c3_i32_227 : BitVec 32) : Fin 2 → Nat :=
  let c0_i32_89 : BitVec 32 := 0#32
  let c1_i32_91 : BitVec 32 := 1#32
  let arg13 : BitVec 32 := Scf.iv c0_i32_89 c1_i32_91 k0_t19
  let c16_i32_202 : BitVec 32 := 16#32
  let v216 : BitVec 32 := Scalar.muli arg13 c16_i32_202
  let c2_i32_203 : BitVec 32 := 2#32
  let v217 : BitVec 32 := Scalar.addi v216 c2_i32_203
  let c5_i32_226 : BitVec 32 := 5#32
  let v266 : BitVec 32 := Scalar.muli v217 c5_i32_226
  let v267 : BitVec 32 := Scalar.addi v266 c3_i32_227
  let c0_i32_230 : BitVec 32 := 0#32
  ![v267.toNat, 0]
def k0_off1456 (v277 : BitVec 32) : Fin 2 → Nat :=
  let c0_i32_235 : BitVec 32 := 0#32
  ![v277.toNat, 0]

def k0_chk594 (v277 : BitVec 32) : Prop :=
  (∀ a, (k0_off1456 v277) a + S1x64.size a ≤ S1000000x64.size a)
instance k0_chk594.dec : ∀ (v277 : BitVec 32), Decidable (k0_chk594 v277) := fun v277 => decidable_of_iff' _ (Iff.of_eq (k0_chk594.eq_1 v277))
theorem k0_off1456_inb : ∀ (v277 : BitVec 32) (k0_hw594 : k0_chk594 v277), ∀ a, (k0_off1456 v277) a + S1x64.size a ≤ S1000000x64.size a := fun v277 k0_hw594 => k0_hw594

def k0_off1457 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_202 : BitVec 32 := 16#32
  let v216 : BitVec 32 := Scalar.muli arg13 c16_i32_202
  let c2_i32_203 : BitVec 32 := 2#32
  let v217 : BitVec 32 := Scalar.addi v216 c2_i32_203
  let c5_i32_232 : BitVec 32 := 5#32
  let v278 : BitVec 32 := Scalar.muli v217 c5_i32_232
  let c4_i32_233 : BitVec 32 := 4#32
  let v279 : BitVec 32 := Scalar.addi v278 c4_i32_233
  let c0_i32_236 : BitVec 32 := 0#32
  ![v279.toNat, 0]
def k0_off1458 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_238 : BitVec 32 := 16#32
  let v288 : BitVec 32 := Scalar.muli arg13 c16_i32_238
  let c3_i32_239 : BitVec 32 := 3#32
  let v289 : BitVec 32 := Scalar.addi v288 c3_i32_239
  let c0_i32_240 : BitVec 32 := 0#32
  ![v289.toNat, 0]
def k0_off1459 (v291 : BitVec 32) : Fin 2 → Nat :=
  let c0_i32_241 : BitVec 32 := 0#32
  ![v291.toNat, 0]

def k0_chk595 (v291 : BitVec 32) : Prop :=
  (∀ a, (k0_off1459 v291) a + S1x64.size a ≤ S1000000x64.size a)
instance k0_chk595.dec : ∀ (v291 : BitVec 32), Decidable (k0_chk595 v291) := fun v291 => decidable_of_iff' _ (Iff.of_eq (k0_chk595.eq_1 v291))
theorem k0_off1459_inb : ∀ (v291 : BitVec 32) (k0_hw595 : k0_chk595 v291), ∀ a, (k0_off1459 v291) a + S1x64.size a ≤ S1000000x64.size a := fun v291 k0_hw595 => k0_hw595

def k0_off1460 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_238 : BitVec 32 := 16#32
  let v288 : BitVec 32 := Scalar.muli arg13 c16_i32_238
  let c3_i32_239 : BitVec 32 := 3#32
  let v289 : BitVec 32 := Scalar.addi v288 c3_i32_239
  let c0_i32_242 : BitVec 32 := 0#32
  ![v289.toNat, 0]
def k0_off1461 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_238 : BitVec 32 := 16#32
  let v288 : BitVec 32 := Scalar.muli arg13 c16_i32_238
  let c3_i32_239 : BitVec 32 := 3#32
  let v289 : BitVec 32 := Scalar.addi v288 c3_i32_239
  let c5_i32_244 : BitVec 32 := 5#32
  let v302 : BitVec 32 := Scalar.muli v289 c5_i32_244
  let c0_i32_245 : BitVec 32 := 0#32
  let v303 : BitVec 32 := Scalar.addi v302 c0_i32_245
  let c0_i32_246 : BitVec 32 := 0#32
  ![v303.toNat, 0]
def k0_off1462 (v301 : BitVec 32) : Fin 2 → Nat :=
  let c0_i32_247 : BitVec 32 := 0#32
  ![v301.toNat, 0]

def k0_chk596 (v301 : BitVec 32) : Prop :=
  (∀ a, (k0_off1462 v301) a + S1x64.size a ≤ S1000000x64.size a)
instance k0_chk596.dec : ∀ (v301 : BitVec 32), Decidable (k0_chk596 v301) := fun v301 => decidable_of_iff' _ (Iff.of_eq (k0_chk596.eq_1 v301))
theorem k0_off1462_inb : ∀ (v301 : BitVec 32) (k0_hw596 : k0_chk596 v301), ∀ a, (k0_off1462 v301) a + S1x64.size a ≤ S1000000x64.size a := fun v301 k0_hw596 => k0_hw596

def k0_off1463 (k0_t19 : Fin k0_t19_loop.trips) (c0_i32_245 : BitVec 32) : Fin 2 → Nat :=
  let c0_i32_89 : BitVec 32 := 0#32
  let c1_i32_91 : BitVec 32 := 1#32
  let arg13 : BitVec 32 := Scf.iv c0_i32_89 c1_i32_91 k0_t19
  let c16_i32_238 : BitVec 32 := 16#32
  let v288 : BitVec 32 := Scalar.muli arg13 c16_i32_238
  let c3_i32_239 : BitVec 32 := 3#32
  let v289 : BitVec 32 := Scalar.addi v288 c3_i32_239
  let c5_i32_244 : BitVec 32 := 5#32
  let v302 : BitVec 32 := Scalar.muli v289 c5_i32_244
  let v303 : BitVec 32 := Scalar.addi v302 c0_i32_245
  let c0_i32_248 : BitVec 32 := 0#32
  ![v303.toNat, 0]
def k0_off1464 (v313 : BitVec 32) : Fin 2 → Nat :=
  let c0_i32_253 : BitVec 32 := 0#32
  ![v313.toNat, 0]

def k0_chk597 (v313 : BitVec 32) : Prop :=
  (∀ a, (k0_off1464 v313) a + S1x64.size a ≤ S1000000x64.size a)
instance k0_chk597.dec : ∀ (v313 : BitVec 32), Decidable (k0_chk597 v313) := fun v313 => decidable_of_iff' _ (Iff.of_eq (k0_chk597.eq_1 v313))
theorem k0_off1464_inb : ∀ (v313 : BitVec 32) (k0_hw597 : k0_chk597 v313), ∀ a, (k0_off1464 v313) a + S1x64.size a ≤ S1000000x64.size a := fun v313 k0_hw597 => k0_hw597

def k0_off1465 (k0_t19 : Fin k0_t19_loop.trips) (c1_i32_251 : BitVec 32) : Fin 2 → Nat :=
  let c0_i32_89 : BitVec 32 := 0#32
  let c1_i32_91 : BitVec 32 := 1#32
  let arg13 : BitVec 32 := Scf.iv c0_i32_89 c1_i32_91 k0_t19
  let c16_i32_238 : BitVec 32 := 16#32
  let v288 : BitVec 32 := Scalar.muli arg13 c16_i32_238
  let c3_i32_239 : BitVec 32 := 3#32
  let v289 : BitVec 32 := Scalar.addi v288 c3_i32_239
  let c5_i32_250 : BitVec 32 := 5#32
  let v314 : BitVec 32 := Scalar.muli v289 c5_i32_250
  let v315 : BitVec 32 := Scalar.addi v314 c1_i32_251
  let c0_i32_254 : BitVec 32 := 0#32
  ![v315.toNat, 0]
def k0_off1466 (v325 : BitVec 32) : Fin 2 → Nat :=
  let c0_i32_259 : BitVec 32 := 0#32
  ![v325.toNat, 0]

def k0_chk598 (v325 : BitVec 32) : Prop :=
  (∀ a, (k0_off1466 v325) a + S1x64.size a ≤ S1000000x64.size a)
instance k0_chk598.dec : ∀ (v325 : BitVec 32), Decidable (k0_chk598 v325) := fun v325 => decidable_of_iff' _ (Iff.of_eq (k0_chk598.eq_1 v325))
theorem k0_off1466_inb : ∀ (v325 : BitVec 32) (k0_hw598 : k0_chk598 v325), ∀ a, (k0_off1466 v325) a + S1x64.size a ≤ S1000000x64.size a := fun v325 k0_hw598 => k0_hw598

def k0_off1467 (k0_t19 : Fin k0_t19_loop.trips) (c2_i32_257 : BitVec 32) : Fin 2 → Nat :=
  let c0_i32_89 : BitVec 32 := 0#32
  let c1_i32_91 : BitVec 32 := 1#32
  let arg13 : BitVec 32 := Scf.iv c0_i32_89 c1_i32_91 k0_t19
  let c16_i32_238 : BitVec 32 := 16#32
  let v288 : BitVec 32 := Scalar.muli arg13 c16_i32_238
  let c3_i32_239 : BitVec 32 := 3#32
  let v289 : BitVec 32 := Scalar.addi v288 c3_i32_239
  let c5_i32_256 : BitVec 32 := 5#32
  let v326 : BitVec 32 := Scalar.muli v289 c5_i32_256
  let v327 : BitVec 32 := Scalar.addi v326 c2_i32_257
  let c0_i32_260 : BitVec 32 := 0#32
  ![v327.toNat, 0]
def k0_off1468 (v337 : BitVec 32) : Fin 2 → Nat :=
  let c0_i32_265 : BitVec 32 := 0#32
  ![v337.toNat, 0]

def k0_chk599 (v337 : BitVec 32) : Prop :=
  (∀ a, (k0_off1468 v337) a + S1x64.size a ≤ S1000000x64.size a)
instance k0_chk599.dec : ∀ (v337 : BitVec 32), Decidable (k0_chk599 v337) := fun v337 => decidable_of_iff' _ (Iff.of_eq (k0_chk599.eq_1 v337))
theorem k0_off1468_inb : ∀ (v337 : BitVec 32) (k0_hw599 : k0_chk599 v337), ∀ a, (k0_off1468 v337) a + S1x64.size a ≤ S1000000x64.size a := fun v337 k0_hw599 => k0_hw599

def k0_off1469 (k0_t19 : Fin k0_t19_loop.trips) (c3_i32_263 : BitVec 32) : Fin 2 → Nat :=
  let c0_i32_89 : BitVec 32 := 0#32
  let c1_i32_91 : BitVec 32 := 1#32
  let arg13 : BitVec 32 := Scf.iv c0_i32_89 c1_i32_91 k0_t19
  let c16_i32_238 : BitVec 32 := 16#32
  let v288 : BitVec 32 := Scalar.muli arg13 c16_i32_238
  let c3_i32_239 : BitVec 32 := 3#32
  let v289 : BitVec 32 := Scalar.addi v288 c3_i32_239
  let c5_i32_262 : BitVec 32 := 5#32
  let v338 : BitVec 32 := Scalar.muli v289 c5_i32_262
  let v339 : BitVec 32 := Scalar.addi v338 c3_i32_263
  let c0_i32_266 : BitVec 32 := 0#32
  ![v339.toNat, 0]
def k0_off1470 (v349 : BitVec 32) : Fin 2 → Nat :=
  let c0_i32_271 : BitVec 32 := 0#32
  ![v349.toNat, 0]

def k0_chk600 (v349 : BitVec 32) : Prop :=
  (∀ a, (k0_off1470 v349) a + S1x64.size a ≤ S1000000x64.size a)
instance k0_chk600.dec : ∀ (v349 : BitVec 32), Decidable (k0_chk600 v349) := fun v349 => decidable_of_iff' _ (Iff.of_eq (k0_chk600.eq_1 v349))
theorem k0_off1470_inb : ∀ (v349 : BitVec 32) (k0_hw600 : k0_chk600 v349), ∀ a, (k0_off1470 v349) a + S1x64.size a ≤ S1000000x64.size a := fun v349 k0_hw600 => k0_hw600

def k0_off1471 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_238 : BitVec 32 := 16#32
  let v288 : BitVec 32 := Scalar.muli arg13 c16_i32_238
  let c3_i32_239 : BitVec 32 := 3#32
  let v289 : BitVec 32 := Scalar.addi v288 c3_i32_239
  let c5_i32_268 : BitVec 32 := 5#32
  let v350 : BitVec 32 := Scalar.muli v289 c5_i32_268
  let c4_i32_269 : BitVec 32 := 4#32
  let v351 : BitVec 32 := Scalar.addi v350 c4_i32_269
  let c0_i32_272 : BitVec 32 := 0#32
  ![v351.toNat, 0]
def k0_off1472 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_274 : BitVec 32 := 16#32
  let v360 : BitVec 32 := Scalar.muli arg13 c16_i32_274
  let c4_i32_275 : BitVec 32 := 4#32
  let v361 : BitVec 32 := Scalar.addi v360 c4_i32_275
  let c0_i32_276 : BitVec 32 := 0#32
  ![v361.toNat, 0]
def k0_off1473 (v363 : BitVec 32) : Fin 2 → Nat :=
  let c0_i32_277 : BitVec 32 := 0#32
  ![v363.toNat, 0]

def k0_chk601 (v363 : BitVec 32) : Prop :=
  (∀ a, (k0_off1473 v363) a + S1x64.size a ≤ S1000000x64.size a)
instance k0_chk601.dec : ∀ (v363 : BitVec 32), Decidable (k0_chk601 v363) := fun v363 => decidable_of_iff' _ (Iff.of_eq (k0_chk601.eq_1 v363))
theorem k0_off1473_inb : ∀ (v363 : BitVec 32) (k0_hw601 : k0_chk601 v363), ∀ a, (k0_off1473 v363) a + S1x64.size a ≤ S1000000x64.size a := fun v363 k0_hw601 => k0_hw601

def k0_off1474 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_274 : BitVec 32 := 16#32
  let v360 : BitVec 32 := Scalar.muli arg13 c16_i32_274
  let c4_i32_275 : BitVec 32 := 4#32
  let v361 : BitVec 32 := Scalar.addi v360 c4_i32_275
  let c0_i32_278 : BitVec 32 := 0#32
  ![v361.toNat, 0]
def k0_off1475 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_274 : BitVec 32 := 16#32
  let v360 : BitVec 32 := Scalar.muli arg13 c16_i32_274
  let c4_i32_275 : BitVec 32 := 4#32
  let v361 : BitVec 32 := Scalar.addi v360 c4_i32_275
  let c5_i32_280 : BitVec 32 := 5#32
  let v374 : BitVec 32 := Scalar.muli v361 c5_i32_280
  let c0_i32_281 : BitVec 32 := 0#32
  let v375 : BitVec 32 := Scalar.addi v374 c0_i32_281
  let c0_i32_282 : BitVec 32 := 0#32
  ![v375.toNat, 0]
def k0_off1476 (v373 : BitVec 32) : Fin 2 → Nat :=
  let c0_i32_283 : BitVec 32 := 0#32
  ![v373.toNat, 0]

def k0_chk602 (v373 : BitVec 32) : Prop :=
  (∀ a, (k0_off1476 v373) a + S1x64.size a ≤ S1000000x64.size a)
instance k0_chk602.dec : ∀ (v373 : BitVec 32), Decidable (k0_chk602 v373) := fun v373 => decidable_of_iff' _ (Iff.of_eq (k0_chk602.eq_1 v373))
theorem k0_off1476_inb : ∀ (v373 : BitVec 32) (k0_hw602 : k0_chk602 v373), ∀ a, (k0_off1476 v373) a + S1x64.size a ≤ S1000000x64.size a := fun v373 k0_hw602 => k0_hw602

def k0_off1477 (k0_t19 : Fin k0_t19_loop.trips) (c0_i32_281 : BitVec 32) : Fin 2 → Nat :=
  let c0_i32_89 : BitVec 32 := 0#32
  let c1_i32_91 : BitVec 32 := 1#32
  let arg13 : BitVec 32 := Scf.iv c0_i32_89 c1_i32_91 k0_t19
  let c16_i32_274 : BitVec 32 := 16#32
  let v360 : BitVec 32 := Scalar.muli arg13 c16_i32_274
  let c4_i32_275 : BitVec 32 := 4#32
  let v361 : BitVec 32 := Scalar.addi v360 c4_i32_275
  let c5_i32_280 : BitVec 32 := 5#32
  let v374 : BitVec 32 := Scalar.muli v361 c5_i32_280
  let v375 : BitVec 32 := Scalar.addi v374 c0_i32_281
  let c0_i32_284 : BitVec 32 := 0#32
  ![v375.toNat, 0]
def k0_off1478 (v385 : BitVec 32) : Fin 2 → Nat :=
  let c0_i32_289 : BitVec 32 := 0#32
  ![v385.toNat, 0]

def k0_chk603 (v385 : BitVec 32) : Prop :=
  (∀ a, (k0_off1478 v385) a + S1x64.size a ≤ S1000000x64.size a)
instance k0_chk603.dec : ∀ (v385 : BitVec 32), Decidable (k0_chk603 v385) := fun v385 => decidable_of_iff' _ (Iff.of_eq (k0_chk603.eq_1 v385))
theorem k0_off1478_inb : ∀ (v385 : BitVec 32) (k0_hw603 : k0_chk603 v385), ∀ a, (k0_off1478 v385) a + S1x64.size a ≤ S1000000x64.size a := fun v385 k0_hw603 => k0_hw603

def k0_off1479 (k0_t19 : Fin k0_t19_loop.trips) (c1_i32_287 : BitVec 32) : Fin 2 → Nat :=
  let c0_i32_89 : BitVec 32 := 0#32
  let c1_i32_91 : BitVec 32 := 1#32
  let arg13 : BitVec 32 := Scf.iv c0_i32_89 c1_i32_91 k0_t19
  let c16_i32_274 : BitVec 32 := 16#32
  let v360 : BitVec 32 := Scalar.muli arg13 c16_i32_274
  let c4_i32_275 : BitVec 32 := 4#32
  let v361 : BitVec 32 := Scalar.addi v360 c4_i32_275
  let c5_i32_286 : BitVec 32 := 5#32
  let v386 : BitVec 32 := Scalar.muli v361 c5_i32_286
  let v387 : BitVec 32 := Scalar.addi v386 c1_i32_287
  let c0_i32_290 : BitVec 32 := 0#32
  ![v387.toNat, 0]
def k0_off1480 (v397 : BitVec 32) : Fin 2 → Nat :=
  let c0_i32_295 : BitVec 32 := 0#32
  ![v397.toNat, 0]

def k0_chk604 (v397 : BitVec 32) : Prop :=
  (∀ a, (k0_off1480 v397) a + S1x64.size a ≤ S1000000x64.size a)
instance k0_chk604.dec : ∀ (v397 : BitVec 32), Decidable (k0_chk604 v397) := fun v397 => decidable_of_iff' _ (Iff.of_eq (k0_chk604.eq_1 v397))
theorem k0_off1480_inb : ∀ (v397 : BitVec 32) (k0_hw604 : k0_chk604 v397), ∀ a, (k0_off1480 v397) a + S1x64.size a ≤ S1000000x64.size a := fun v397 k0_hw604 => k0_hw604

def k0_off1481 (k0_t19 : Fin k0_t19_loop.trips) (c2_i32_293 : BitVec 32) : Fin 2 → Nat :=
  let c0_i32_89 : BitVec 32 := 0#32
  let c1_i32_91 : BitVec 32 := 1#32
  let arg13 : BitVec 32 := Scf.iv c0_i32_89 c1_i32_91 k0_t19
  let c16_i32_274 : BitVec 32 := 16#32
  let v360 : BitVec 32 := Scalar.muli arg13 c16_i32_274
  let c4_i32_275 : BitVec 32 := 4#32
  let v361 : BitVec 32 := Scalar.addi v360 c4_i32_275
  let c5_i32_292 : BitVec 32 := 5#32
  let v398 : BitVec 32 := Scalar.muli v361 c5_i32_292
  let v399 : BitVec 32 := Scalar.addi v398 c2_i32_293
  let c0_i32_296 : BitVec 32 := 0#32
  ![v399.toNat, 0]
def k0_off1482 (v409 : BitVec 32) : Fin 2 → Nat :=
  let c0_i32_301 : BitVec 32 := 0#32
  ![v409.toNat, 0]

def k0_chk605 (v409 : BitVec 32) : Prop :=
  (∀ a, (k0_off1482 v409) a + S1x64.size a ≤ S1000000x64.size a)
instance k0_chk605.dec : ∀ (v409 : BitVec 32), Decidable (k0_chk605 v409) := fun v409 => decidable_of_iff' _ (Iff.of_eq (k0_chk605.eq_1 v409))
theorem k0_off1482_inb : ∀ (v409 : BitVec 32) (k0_hw605 : k0_chk605 v409), ∀ a, (k0_off1482 v409) a + S1x64.size a ≤ S1000000x64.size a := fun v409 k0_hw605 => k0_hw605

def k0_off1483 (k0_t19 : Fin k0_t19_loop.trips) (c3_i32_299 : BitVec 32) : Fin 2 → Nat :=
  let c0_i32_89 : BitVec 32 := 0#32
  let c1_i32_91 : BitVec 32 := 1#32
  let arg13 : BitVec 32 := Scf.iv c0_i32_89 c1_i32_91 k0_t19
  let c16_i32_274 : BitVec 32 := 16#32
  let v360 : BitVec 32 := Scalar.muli arg13 c16_i32_274
  let c4_i32_275 : BitVec 32 := 4#32
  let v361 : BitVec 32 := Scalar.addi v360 c4_i32_275
  let c5_i32_298 : BitVec 32 := 5#32
  let v410 : BitVec 32 := Scalar.muli v361 c5_i32_298
  let v411 : BitVec 32 := Scalar.addi v410 c3_i32_299
  let c0_i32_302 : BitVec 32 := 0#32
  ![v411.toNat, 0]
def k0_off1484 (v421 : BitVec 32) : Fin 2 → Nat :=
  let c0_i32_307 : BitVec 32 := 0#32
  ![v421.toNat, 0]

def k0_chk606 (v421 : BitVec 32) : Prop :=
  (∀ a, (k0_off1484 v421) a + S1x64.size a ≤ S1000000x64.size a)
instance k0_chk606.dec : ∀ (v421 : BitVec 32), Decidable (k0_chk606 v421) := fun v421 => decidable_of_iff' _ (Iff.of_eq (k0_chk606.eq_1 v421))
theorem k0_off1484_inb : ∀ (v421 : BitVec 32) (k0_hw606 : k0_chk606 v421), ∀ a, (k0_off1484 v421) a + S1x64.size a ≤ S1000000x64.size a := fun v421 k0_hw606 => k0_hw606

def k0_off1485 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_274 : BitVec 32 := 16#32
  let v360 : BitVec 32 := Scalar.muli arg13 c16_i32_274
  let c4_i32_275 : BitVec 32 := 4#32
  let v361 : BitVec 32 := Scalar.addi v360 c4_i32_275
  let c5_i32_304 : BitVec 32 := 5#32
  let v422 : BitVec 32 := Scalar.muli v361 c5_i32_304
  let c4_i32_305 : BitVec 32 := 4#32
  let v423 : BitVec 32 := Scalar.addi v422 c4_i32_305
  let c0_i32_308 : BitVec 32 := 0#32
  ![v423.toNat, 0]
def k0_off1486 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_310 : BitVec 32 := 16#32
  let v432 : BitVec 32 := Scalar.muli arg13 c16_i32_310
  let c5_i32_311 : BitVec 32 := 5#32
  let v433 : BitVec 32 := Scalar.addi v432 c5_i32_311
  let c0_i32_312 : BitVec 32 := 0#32
  ![v433.toNat, 0]
def k0_off1487 (v435 : BitVec 32) : Fin 2 → Nat :=
  let c0_i32_313 : BitVec 32 := 0#32
  ![v435.toNat, 0]

def k0_chk607 (v435 : BitVec 32) : Prop :=
  (∀ a, (k0_off1487 v435) a + S1x64.size a ≤ S1000000x64.size a)
instance k0_chk607.dec : ∀ (v435 : BitVec 32), Decidable (k0_chk607 v435) := fun v435 => decidable_of_iff' _ (Iff.of_eq (k0_chk607.eq_1 v435))
theorem k0_off1487_inb : ∀ (v435 : BitVec 32) (k0_hw607 : k0_chk607 v435), ∀ a, (k0_off1487 v435) a + S1x64.size a ≤ S1000000x64.size a := fun v435 k0_hw607 => k0_hw607

def k0_off1488 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_310 : BitVec 32 := 16#32
  let v432 : BitVec 32 := Scalar.muli arg13 c16_i32_310
  let c5_i32_311 : BitVec 32 := 5#32
  let v433 : BitVec 32 := Scalar.addi v432 c5_i32_311
  let c0_i32_314 : BitVec 32 := 0#32
  ![v433.toNat, 0]
def k0_off1489 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_310 : BitVec 32 := 16#32
  let v432 : BitVec 32 := Scalar.muli arg13 c16_i32_310
  let c5_i32_311 : BitVec 32 := 5#32
  let v433 : BitVec 32 := Scalar.addi v432 c5_i32_311
  let c5_i32_316 : BitVec 32 := 5#32
  let v446 : BitVec 32 := Scalar.muli v433 c5_i32_316
  let c0_i32_317 : BitVec 32 := 0#32
  let v447 : BitVec 32 := Scalar.addi v446 c0_i32_317
  let c0_i32_318 : BitVec 32 := 0#32
  ![v447.toNat, 0]
def k0_off1490 (v445 : BitVec 32) : Fin 2 → Nat :=
  let c0_i32_319 : BitVec 32 := 0#32
  ![v445.toNat, 0]

def k0_chk608 (v445 : BitVec 32) : Prop :=
  (∀ a, (k0_off1490 v445) a + S1x64.size a ≤ S1000000x64.size a)
instance k0_chk608.dec : ∀ (v445 : BitVec 32), Decidable (k0_chk608 v445) := fun v445 => decidable_of_iff' _ (Iff.of_eq (k0_chk608.eq_1 v445))
theorem k0_off1490_inb : ∀ (v445 : BitVec 32) (k0_hw608 : k0_chk608 v445), ∀ a, (k0_off1490 v445) a + S1x64.size a ≤ S1000000x64.size a := fun v445 k0_hw608 => k0_hw608

def k0_off1491 (k0_t19 : Fin k0_t19_loop.trips) (c0_i32_317 : BitVec 32) : Fin 2 → Nat :=
  let c0_i32_89 : BitVec 32 := 0#32
  let c1_i32_91 : BitVec 32 := 1#32
  let arg13 : BitVec 32 := Scf.iv c0_i32_89 c1_i32_91 k0_t19
  let c16_i32_310 : BitVec 32 := 16#32
  let v432 : BitVec 32 := Scalar.muli arg13 c16_i32_310
  let c5_i32_311 : BitVec 32 := 5#32
  let v433 : BitVec 32 := Scalar.addi v432 c5_i32_311
  let c5_i32_316 : BitVec 32 := 5#32
  let v446 : BitVec 32 := Scalar.muli v433 c5_i32_316
  let v447 : BitVec 32 := Scalar.addi v446 c0_i32_317
  let c0_i32_320 : BitVec 32 := 0#32
  ![v447.toNat, 0]
def k0_off1492 (v457 : BitVec 32) : Fin 2 → Nat :=
  let c0_i32_325 : BitVec 32 := 0#32
  ![v457.toNat, 0]

def k0_chk609 (v457 : BitVec 32) : Prop :=
  (∀ a, (k0_off1492 v457) a + S1x64.size a ≤ S1000000x64.size a)
instance k0_chk609.dec : ∀ (v457 : BitVec 32), Decidable (k0_chk609 v457) := fun v457 => decidable_of_iff' _ (Iff.of_eq (k0_chk609.eq_1 v457))
theorem k0_off1492_inb : ∀ (v457 : BitVec 32) (k0_hw609 : k0_chk609 v457), ∀ a, (k0_off1492 v457) a + S1x64.size a ≤ S1000000x64.size a := fun v457 k0_hw609 => k0_hw609

def k0_off1493 (k0_t19 : Fin k0_t19_loop.trips) (c1_i32_323 : BitVec 32) : Fin 2 → Nat :=
  let c0_i32_89 : BitVec 32 := 0#32
  let c1_i32_91 : BitVec 32 := 1#32
  let arg13 : BitVec 32 := Scf.iv c0_i32_89 c1_i32_91 k0_t19
  let c16_i32_310 : BitVec 32 := 16#32
  let v432 : BitVec 32 := Scalar.muli arg13 c16_i32_310
  let c5_i32_311 : BitVec 32 := 5#32
  let v433 : BitVec 32 := Scalar.addi v432 c5_i32_311
  let c5_i32_322 : BitVec 32 := 5#32
  let v458 : BitVec 32 := Scalar.muli v433 c5_i32_322
  let v459 : BitVec 32 := Scalar.addi v458 c1_i32_323
  let c0_i32_326 : BitVec 32 := 0#32
  ![v459.toNat, 0]
def k0_off1494 (v469 : BitVec 32) : Fin 2 → Nat :=
  let c0_i32_331 : BitVec 32 := 0#32
  ![v469.toNat, 0]

def k0_chk610 (v469 : BitVec 32) : Prop :=
  (∀ a, (k0_off1494 v469) a + S1x64.size a ≤ S1000000x64.size a)
instance k0_chk610.dec : ∀ (v469 : BitVec 32), Decidable (k0_chk610 v469) := fun v469 => decidable_of_iff' _ (Iff.of_eq (k0_chk610.eq_1 v469))
theorem k0_off1494_inb : ∀ (v469 : BitVec 32) (k0_hw610 : k0_chk610 v469), ∀ a, (k0_off1494 v469) a + S1x64.size a ≤ S1000000x64.size a := fun v469 k0_hw610 => k0_hw610

def k0_off1495 (k0_t19 : Fin k0_t19_loop.trips) (c2_i32_329 : BitVec 32) : Fin 2 → Nat :=
  let c0_i32_89 : BitVec 32 := 0#32
  let c1_i32_91 : BitVec 32 := 1#32
  let arg13 : BitVec 32 := Scf.iv c0_i32_89 c1_i32_91 k0_t19
  let c16_i32_310 : BitVec 32 := 16#32
  let v432 : BitVec 32 := Scalar.muli arg13 c16_i32_310
  let c5_i32_311 : BitVec 32 := 5#32
  let v433 : BitVec 32 := Scalar.addi v432 c5_i32_311
  let c5_i32_328 : BitVec 32 := 5#32
  let v470 : BitVec 32 := Scalar.muli v433 c5_i32_328
  let v471 : BitVec 32 := Scalar.addi v470 c2_i32_329
  let c0_i32_332 : BitVec 32 := 0#32
  ![v471.toNat, 0]
def k0_off1496 (v481 : BitVec 32) : Fin 2 → Nat :=
  let c0_i32_337 : BitVec 32 := 0#32
  ![v481.toNat, 0]

def k0_chk611 (v481 : BitVec 32) : Prop :=
  (∀ a, (k0_off1496 v481) a + S1x64.size a ≤ S1000000x64.size a)
instance k0_chk611.dec : ∀ (v481 : BitVec 32), Decidable (k0_chk611 v481) := fun v481 => decidable_of_iff' _ (Iff.of_eq (k0_chk611.eq_1 v481))
theorem k0_off1496_inb : ∀ (v481 : BitVec 32) (k0_hw611 : k0_chk611 v481), ∀ a, (k0_off1496 v481) a + S1x64.size a ≤ S1000000x64.size a := fun v481 k0_hw611 => k0_hw611

def k0_off1497 (k0_t19 : Fin k0_t19_loop.trips) (c3_i32_335 : BitVec 32) : Fin 2 → Nat :=
  let c0_i32_89 : BitVec 32 := 0#32
  let c1_i32_91 : BitVec 32 := 1#32
  let arg13 : BitVec 32 := Scf.iv c0_i32_89 c1_i32_91 k0_t19
  let c16_i32_310 : BitVec 32 := 16#32
  let v432 : BitVec 32 := Scalar.muli arg13 c16_i32_310
  let c5_i32_311 : BitVec 32 := 5#32
  let v433 : BitVec 32 := Scalar.addi v432 c5_i32_311
  let c5_i32_334 : BitVec 32 := 5#32
  let v482 : BitVec 32 := Scalar.muli v433 c5_i32_334
  let v483 : BitVec 32 := Scalar.addi v482 c3_i32_335
  let c0_i32_338 : BitVec 32 := 0#32
  ![v483.toNat, 0]
def k0_off1498 (v493 : BitVec 32) : Fin 2 → Nat :=
  let c0_i32_343 : BitVec 32 := 0#32
  ![v493.toNat, 0]

def k0_chk612 (v493 : BitVec 32) : Prop :=
  (∀ a, (k0_off1498 v493) a + S1x64.size a ≤ S1000000x64.size a)
instance k0_chk612.dec : ∀ (v493 : BitVec 32), Decidable (k0_chk612 v493) := fun v493 => decidable_of_iff' _ (Iff.of_eq (k0_chk612.eq_1 v493))
theorem k0_off1498_inb : ∀ (v493 : BitVec 32) (k0_hw612 : k0_chk612 v493), ∀ a, (k0_off1498 v493) a + S1x64.size a ≤ S1000000x64.size a := fun v493 k0_hw612 => k0_hw612

def k0_off1499 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_310 : BitVec 32 := 16#32
  let v432 : BitVec 32 := Scalar.muli arg13 c16_i32_310
  let c5_i32_311 : BitVec 32 := 5#32
  let v433 : BitVec 32 := Scalar.addi v432 c5_i32_311
  let c5_i32_340 : BitVec 32 := 5#32
  let v494 : BitVec 32 := Scalar.muli v433 c5_i32_340
  let c4_i32_341 : BitVec 32 := 4#32
  let v495 : BitVec 32 := Scalar.addi v494 c4_i32_341
  let c0_i32_344 : BitVec 32 := 0#32
  ![v495.toNat, 0]
def k0_off1500 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_346 : BitVec 32 := 16#32
  let v504 : BitVec 32 := Scalar.muli arg13 c16_i32_346
  let c6_i32 : BitVec 32 := 6#32
  let v505 : BitVec 32 := Scalar.addi v504 c6_i32
  let c0_i32_347 : BitVec 32 := 0#32
  ![v505.toNat, 0]
def k0_off1501 (v507 : BitVec 32) : Fin 2 → Nat :=
  let c0_i32_348 : BitVec 32 := 0#32
  ![v507.toNat, 0]

def k0_chk613 (v507 : BitVec 32) : Prop :=
  (∀ a, (k0_off1501 v507) a + S1x64.size a ≤ S1000000x64.size a)
instance k0_chk613.dec : ∀ (v507 : BitVec 32), Decidable (k0_chk613 v507) := fun v507 => decidable_of_iff' _ (Iff.of_eq (k0_chk613.eq_1 v507))
theorem k0_off1501_inb : ∀ (v507 : BitVec 32) (k0_hw613 : k0_chk613 v507), ∀ a, (k0_off1501 v507) a + S1x64.size a ≤ S1000000x64.size a := fun v507 k0_hw613 => k0_hw613

def k0_off1502 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_346 : BitVec 32 := 16#32
  let v504 : BitVec 32 := Scalar.muli arg13 c16_i32_346
  let c6_i32 : BitVec 32 := 6#32
  let v505 : BitVec 32 := Scalar.addi v504 c6_i32
  let c0_i32_349 : BitVec 32 := 0#32
  ![v505.toNat, 0]
def k0_off1503 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_346 : BitVec 32 := 16#32
  let v504 : BitVec 32 := Scalar.muli arg13 c16_i32_346
  let c6_i32 : BitVec 32 := 6#32
  let v505 : BitVec 32 := Scalar.addi v504 c6_i32
  let c5_i32_351 : BitVec 32 := 5#32
  let v518 : BitVec 32 := Scalar.muli v505 c5_i32_351
  let c0_i32_352 : BitVec 32 := 0#32
  let v519 : BitVec 32 := Scalar.addi v518 c0_i32_352
  let c0_i32_353 : BitVec 32 := 0#32
  ![v519.toNat, 0]
def k0_off1504 (v517 : BitVec 32) : Fin 2 → Nat :=
  let c0_i32_354 : BitVec 32 := 0#32
  ![v517.toNat, 0]

def k0_chk614 (v517 : BitVec 32) : Prop :=
  (∀ a, (k0_off1504 v517) a + S1x64.size a ≤ S1000000x64.size a)
instance k0_chk614.dec : ∀ (v517 : BitVec 32), Decidable (k0_chk614 v517) := fun v517 => decidable_of_iff' _ (Iff.of_eq (k0_chk614.eq_1 v517))
theorem k0_off1504_inb : ∀ (v517 : BitVec 32) (k0_hw614 : k0_chk614 v517), ∀ a, (k0_off1504 v517) a + S1x64.size a ≤ S1000000x64.size a := fun v517 k0_hw614 => k0_hw614

def k0_off1505 (k0_t19 : Fin k0_t19_loop.trips) (c0_i32_352 : BitVec 32) : Fin 2 → Nat :=
  let c0_i32_89 : BitVec 32 := 0#32
  let c1_i32_91 : BitVec 32 := 1#32
  let arg13 : BitVec 32 := Scf.iv c0_i32_89 c1_i32_91 k0_t19
  let c16_i32_346 : BitVec 32 := 16#32
  let v504 : BitVec 32 := Scalar.muli arg13 c16_i32_346
  let c6_i32 : BitVec 32 := 6#32
  let v505 : BitVec 32 := Scalar.addi v504 c6_i32
  let c5_i32_351 : BitVec 32 := 5#32
  let v518 : BitVec 32 := Scalar.muli v505 c5_i32_351
  let v519 : BitVec 32 := Scalar.addi v518 c0_i32_352
  let c0_i32_355 : BitVec 32 := 0#32
  ![v519.toNat, 0]
def k0_off1506 (v529 : BitVec 32) : Fin 2 → Nat :=
  let c0_i32_360 : BitVec 32 := 0#32
  ![v529.toNat, 0]

def k0_chk615 (v529 : BitVec 32) : Prop :=
  (∀ a, (k0_off1506 v529) a + S1x64.size a ≤ S1000000x64.size a)
instance k0_chk615.dec : ∀ (v529 : BitVec 32), Decidable (k0_chk615 v529) := fun v529 => decidable_of_iff' _ (Iff.of_eq (k0_chk615.eq_1 v529))
theorem k0_off1506_inb : ∀ (v529 : BitVec 32) (k0_hw615 : k0_chk615 v529), ∀ a, (k0_off1506 v529) a + S1x64.size a ≤ S1000000x64.size a := fun v529 k0_hw615 => k0_hw615

def k0_off1507 (k0_t19 : Fin k0_t19_loop.trips) (c1_i32_358 : BitVec 32) : Fin 2 → Nat :=
  let c0_i32_89 : BitVec 32 := 0#32
  let c1_i32_91 : BitVec 32 := 1#32
  let arg13 : BitVec 32 := Scf.iv c0_i32_89 c1_i32_91 k0_t19
  let c16_i32_346 : BitVec 32 := 16#32
  let v504 : BitVec 32 := Scalar.muli arg13 c16_i32_346
  let c6_i32 : BitVec 32 := 6#32
  let v505 : BitVec 32 := Scalar.addi v504 c6_i32
  let c5_i32_357 : BitVec 32 := 5#32
  let v530 : BitVec 32 := Scalar.muli v505 c5_i32_357
  let v531 : BitVec 32 := Scalar.addi v530 c1_i32_358
  let c0_i32_361 : BitVec 32 := 0#32
  ![v531.toNat, 0]
def k0_off1508 (v541 : BitVec 32) : Fin 2 → Nat :=
  let c0_i32_366 : BitVec 32 := 0#32
  ![v541.toNat, 0]

def k0_chk616 (v541 : BitVec 32) : Prop :=
  (∀ a, (k0_off1508 v541) a + S1x64.size a ≤ S1000000x64.size a)
instance k0_chk616.dec : ∀ (v541 : BitVec 32), Decidable (k0_chk616 v541) := fun v541 => decidable_of_iff' _ (Iff.of_eq (k0_chk616.eq_1 v541))
theorem k0_off1508_inb : ∀ (v541 : BitVec 32) (k0_hw616 : k0_chk616 v541), ∀ a, (k0_off1508 v541) a + S1x64.size a ≤ S1000000x64.size a := fun v541 k0_hw616 => k0_hw616

def k0_off1509 (k0_t19 : Fin k0_t19_loop.trips) (c2_i32_364 : BitVec 32) : Fin 2 → Nat :=
  let c0_i32_89 : BitVec 32 := 0#32
  let c1_i32_91 : BitVec 32 := 1#32
  let arg13 : BitVec 32 := Scf.iv c0_i32_89 c1_i32_91 k0_t19
  let c16_i32_346 : BitVec 32 := 16#32
  let v504 : BitVec 32 := Scalar.muli arg13 c16_i32_346
  let c6_i32 : BitVec 32 := 6#32
  let v505 : BitVec 32 := Scalar.addi v504 c6_i32
  let c5_i32_363 : BitVec 32 := 5#32
  let v542 : BitVec 32 := Scalar.muli v505 c5_i32_363
  let v543 : BitVec 32 := Scalar.addi v542 c2_i32_364
  let c0_i32_367 : BitVec 32 := 0#32
  ![v543.toNat, 0]
def k0_off1510 (v553 : BitVec 32) : Fin 2 → Nat :=
  let c0_i32_372 : BitVec 32 := 0#32
  ![v553.toNat, 0]

def k0_chk617 (v553 : BitVec 32) : Prop :=
  (∀ a, (k0_off1510 v553) a + S1x64.size a ≤ S1000000x64.size a)
instance k0_chk617.dec : ∀ (v553 : BitVec 32), Decidable (k0_chk617 v553) := fun v553 => decidable_of_iff' _ (Iff.of_eq (k0_chk617.eq_1 v553))
theorem k0_off1510_inb : ∀ (v553 : BitVec 32) (k0_hw617 : k0_chk617 v553), ∀ a, (k0_off1510 v553) a + S1x64.size a ≤ S1000000x64.size a := fun v553 k0_hw617 => k0_hw617

def k0_off1511 (k0_t19 : Fin k0_t19_loop.trips) (c3_i32_370 : BitVec 32) : Fin 2 → Nat :=
  let c0_i32_89 : BitVec 32 := 0#32
  let c1_i32_91 : BitVec 32 := 1#32
  let arg13 : BitVec 32 := Scf.iv c0_i32_89 c1_i32_91 k0_t19
  let c16_i32_346 : BitVec 32 := 16#32
  let v504 : BitVec 32 := Scalar.muli arg13 c16_i32_346
  let c6_i32 : BitVec 32 := 6#32
  let v505 : BitVec 32 := Scalar.addi v504 c6_i32
  let c5_i32_369 : BitVec 32 := 5#32
  let v554 : BitVec 32 := Scalar.muli v505 c5_i32_369
  let v555 : BitVec 32 := Scalar.addi v554 c3_i32_370
  let c0_i32_373 : BitVec 32 := 0#32
  ![v555.toNat, 0]
def k0_off1512 (v565 : BitVec 32) : Fin 2 → Nat :=
  let c0_i32_378 : BitVec 32 := 0#32
  ![v565.toNat, 0]

def k0_chk618 (v565 : BitVec 32) : Prop :=
  (∀ a, (k0_off1512 v565) a + S1x64.size a ≤ S1000000x64.size a)
instance k0_chk618.dec : ∀ (v565 : BitVec 32), Decidable (k0_chk618 v565) := fun v565 => decidable_of_iff' _ (Iff.of_eq (k0_chk618.eq_1 v565))
theorem k0_off1512_inb : ∀ (v565 : BitVec 32) (k0_hw618 : k0_chk618 v565), ∀ a, (k0_off1512 v565) a + S1x64.size a ≤ S1000000x64.size a := fun v565 k0_hw618 => k0_hw618

def k0_off1513 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_346 : BitVec 32 := 16#32
  let v504 : BitVec 32 := Scalar.muli arg13 c16_i32_346
  let c6_i32 : BitVec 32 := 6#32
  let v505 : BitVec 32 := Scalar.addi v504 c6_i32
  let c5_i32_375 : BitVec 32 := 5#32
  let v566 : BitVec 32 := Scalar.muli v505 c5_i32_375
  let c4_i32_376 : BitVec 32 := 4#32
  let v567 : BitVec 32 := Scalar.addi v566 c4_i32_376
  let c0_i32_379 : BitVec 32 := 0#32
  ![v567.toNat, 0]
def k0_off1514 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_381 : BitVec 32 := 16#32
  let v576 : BitVec 32 := Scalar.muli arg13 c16_i32_381
  let c7_i32 : BitVec 32 := 7#32
  let v577 : BitVec 32 := Scalar.addi v576 c7_i32
  let c0_i32_382 : BitVec 32 := 0#32
  ![v577.toNat, 0]
def k0_off1515 (v579 : BitVec 32) : Fin 2 → Nat :=
  let c0_i32_383 : BitVec 32 := 0#32
  ![v579.toNat, 0]

def k0_chk619 (v579 : BitVec 32) : Prop :=
  (∀ a, (k0_off1515 v579) a + S1x64.size a ≤ S1000000x64.size a)
instance k0_chk619.dec : ∀ (v579 : BitVec 32), Decidable (k0_chk619 v579) := fun v579 => decidable_of_iff' _ (Iff.of_eq (k0_chk619.eq_1 v579))
theorem k0_off1515_inb : ∀ (v579 : BitVec 32) (k0_hw619 : k0_chk619 v579), ∀ a, (k0_off1515 v579) a + S1x64.size a ≤ S1000000x64.size a := fun v579 k0_hw619 => k0_hw619

def k0_off1516 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_381 : BitVec 32 := 16#32
  let v576 : BitVec 32 := Scalar.muli arg13 c16_i32_381
  let c7_i32 : BitVec 32 := 7#32
  let v577 : BitVec 32 := Scalar.addi v576 c7_i32
  let c0_i32_384 : BitVec 32 := 0#32
  ![v577.toNat, 0]
def k0_off1517 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_381 : BitVec 32 := 16#32
  let v576 : BitVec 32 := Scalar.muli arg13 c16_i32_381
  let c7_i32 : BitVec 32 := 7#32
  let v577 : BitVec 32 := Scalar.addi v576 c7_i32
  let c5_i32_386 : BitVec 32 := 5#32
  let v590 : BitVec 32 := Scalar.muli v577 c5_i32_386
  let c0_i32_387 : BitVec 32 := 0#32
  let v591 : BitVec 32 := Scalar.addi v590 c0_i32_387
  let c0_i32_388 : BitVec 32 := 0#32
  ![v591.toNat, 0]
def k0_off1518 (v589 : BitVec 32) : Fin 2 → Nat :=
  let c0_i32_389 : BitVec 32 := 0#32
  ![v589.toNat, 0]

def k0_chk620 (v589 : BitVec 32) : Prop :=
  (∀ a, (k0_off1518 v589) a + S1x64.size a ≤ S1000000x64.size a)
instance k0_chk620.dec : ∀ (v589 : BitVec 32), Decidable (k0_chk620 v589) := fun v589 => decidable_of_iff' _ (Iff.of_eq (k0_chk620.eq_1 v589))
theorem k0_off1518_inb : ∀ (v589 : BitVec 32) (k0_hw620 : k0_chk620 v589), ∀ a, (k0_off1518 v589) a + S1x64.size a ≤ S1000000x64.size a := fun v589 k0_hw620 => k0_hw620

def k0_off1519 (k0_t19 : Fin k0_t19_loop.trips) (c0_i32_387 : BitVec 32) : Fin 2 → Nat :=
  let c0_i32_89 : BitVec 32 := 0#32
  let c1_i32_91 : BitVec 32 := 1#32
  let arg13 : BitVec 32 := Scf.iv c0_i32_89 c1_i32_91 k0_t19
  let c16_i32_381 : BitVec 32 := 16#32
  let v576 : BitVec 32 := Scalar.muli arg13 c16_i32_381
  let c7_i32 : BitVec 32 := 7#32
  let v577 : BitVec 32 := Scalar.addi v576 c7_i32
  let c5_i32_386 : BitVec 32 := 5#32
  let v590 : BitVec 32 := Scalar.muli v577 c5_i32_386
  let v591 : BitVec 32 := Scalar.addi v590 c0_i32_387
  let c0_i32_390 : BitVec 32 := 0#32
  ![v591.toNat, 0]
def k0_off1520 (v601 : BitVec 32) : Fin 2 → Nat :=
  let c0_i32_395 : BitVec 32 := 0#32
  ![v601.toNat, 0]

def k0_chk621 (v601 : BitVec 32) : Prop :=
  (∀ a, (k0_off1520 v601) a + S1x64.size a ≤ S1000000x64.size a)
instance k0_chk621.dec : ∀ (v601 : BitVec 32), Decidable (k0_chk621 v601) := fun v601 => decidable_of_iff' _ (Iff.of_eq (k0_chk621.eq_1 v601))
theorem k0_off1520_inb : ∀ (v601 : BitVec 32) (k0_hw621 : k0_chk621 v601), ∀ a, (k0_off1520 v601) a + S1x64.size a ≤ S1000000x64.size a := fun v601 k0_hw621 => k0_hw621

def k0_off1521 (k0_t19 : Fin k0_t19_loop.trips) (c1_i32_393 : BitVec 32) : Fin 2 → Nat :=
  let c0_i32_89 : BitVec 32 := 0#32
  let c1_i32_91 : BitVec 32 := 1#32
  let arg13 : BitVec 32 := Scf.iv c0_i32_89 c1_i32_91 k0_t19
  let c16_i32_381 : BitVec 32 := 16#32
  let v576 : BitVec 32 := Scalar.muli arg13 c16_i32_381
  let c7_i32 : BitVec 32 := 7#32
  let v577 : BitVec 32 := Scalar.addi v576 c7_i32
  let c5_i32_392 : BitVec 32 := 5#32
  let v602 : BitVec 32 := Scalar.muli v577 c5_i32_392
  let v603 : BitVec 32 := Scalar.addi v602 c1_i32_393
  let c0_i32_396 : BitVec 32 := 0#32
  ![v603.toNat, 0]
def k0_off1522 (v613 : BitVec 32) : Fin 2 → Nat :=
  let c0_i32_401 : BitVec 32 := 0#32
  ![v613.toNat, 0]

def k0_chk622 (v613 : BitVec 32) : Prop :=
  (∀ a, (k0_off1522 v613) a + S1x64.size a ≤ S1000000x64.size a)
instance k0_chk622.dec : ∀ (v613 : BitVec 32), Decidable (k0_chk622 v613) := fun v613 => decidable_of_iff' _ (Iff.of_eq (k0_chk622.eq_1 v613))
theorem k0_off1522_inb : ∀ (v613 : BitVec 32) (k0_hw622 : k0_chk622 v613), ∀ a, (k0_off1522 v613) a + S1x64.size a ≤ S1000000x64.size a := fun v613 k0_hw622 => k0_hw622

def k0_off1523 (k0_t19 : Fin k0_t19_loop.trips) (c2_i32_399 : BitVec 32) : Fin 2 → Nat :=
  let c0_i32_89 : BitVec 32 := 0#32
  let c1_i32_91 : BitVec 32 := 1#32
  let arg13 : BitVec 32 := Scf.iv c0_i32_89 c1_i32_91 k0_t19
  let c16_i32_381 : BitVec 32 := 16#32
  let v576 : BitVec 32 := Scalar.muli arg13 c16_i32_381
  let c7_i32 : BitVec 32 := 7#32
  let v577 : BitVec 32 := Scalar.addi v576 c7_i32
  let c5_i32_398 : BitVec 32 := 5#32
  let v614 : BitVec 32 := Scalar.muli v577 c5_i32_398
  let v615 : BitVec 32 := Scalar.addi v614 c2_i32_399
  let c0_i32_402 : BitVec 32 := 0#32
  ![v615.toNat, 0]
def k0_off1524 (v625 : BitVec 32) : Fin 2 → Nat :=
  let c0_i32_407 : BitVec 32 := 0#32
  ![v625.toNat, 0]

def k0_chk623 (v625 : BitVec 32) : Prop :=
  (∀ a, (k0_off1524 v625) a + S1x64.size a ≤ S1000000x64.size a)
instance k0_chk623.dec : ∀ (v625 : BitVec 32), Decidable (k0_chk623 v625) := fun v625 => decidable_of_iff' _ (Iff.of_eq (k0_chk623.eq_1 v625))
theorem k0_off1524_inb : ∀ (v625 : BitVec 32) (k0_hw623 : k0_chk623 v625), ∀ a, (k0_off1524 v625) a + S1x64.size a ≤ S1000000x64.size a := fun v625 k0_hw623 => k0_hw623

def k0_off1525 (k0_t19 : Fin k0_t19_loop.trips) (c3_i32_405 : BitVec 32) : Fin 2 → Nat :=
  let c0_i32_89 : BitVec 32 := 0#32
  let c1_i32_91 : BitVec 32 := 1#32
  let arg13 : BitVec 32 := Scf.iv c0_i32_89 c1_i32_91 k0_t19
  let c16_i32_381 : BitVec 32 := 16#32
  let v576 : BitVec 32 := Scalar.muli arg13 c16_i32_381
  let c7_i32 : BitVec 32 := 7#32
  let v577 : BitVec 32 := Scalar.addi v576 c7_i32
  let c5_i32_404 : BitVec 32 := 5#32
  let v626 : BitVec 32 := Scalar.muli v577 c5_i32_404
  let v627 : BitVec 32 := Scalar.addi v626 c3_i32_405
  let c0_i32_408 : BitVec 32 := 0#32
  ![v627.toNat, 0]
def k0_off1526 (v637 : BitVec 32) : Fin 2 → Nat :=
  let c0_i32_413 : BitVec 32 := 0#32
  ![v637.toNat, 0]

def k0_chk624 (v637 : BitVec 32) : Prop :=
  (∀ a, (k0_off1526 v637) a + S1x64.size a ≤ S1000000x64.size a)
instance k0_chk624.dec : ∀ (v637 : BitVec 32), Decidable (k0_chk624 v637) := fun v637 => decidable_of_iff' _ (Iff.of_eq (k0_chk624.eq_1 v637))
theorem k0_off1526_inb : ∀ (v637 : BitVec 32) (k0_hw624 : k0_chk624 v637), ∀ a, (k0_off1526 v637) a + S1x64.size a ≤ S1000000x64.size a := fun v637 k0_hw624 => k0_hw624

def k0_off1527 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_381 : BitVec 32 := 16#32
  let v576 : BitVec 32 := Scalar.muli arg13 c16_i32_381
  let c7_i32 : BitVec 32 := 7#32
  let v577 : BitVec 32 := Scalar.addi v576 c7_i32
  let c5_i32_410 : BitVec 32 := 5#32
  let v638 : BitVec 32 := Scalar.muli v577 c5_i32_410
  let c4_i32_411 : BitVec 32 := 4#32
  let v639 : BitVec 32 := Scalar.addi v638 c4_i32_411
  let c0_i32_414 : BitVec 32 := 0#32
  ![v639.toNat, 0]
def k0_off1528 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_416 : BitVec 32 := 16#32
  let v648 : BitVec 32 := Scalar.muli arg13 c16_i32_416
  let c8_i32 : BitVec 32 := 8#32
  let v649 : BitVec 32 := Scalar.addi v648 c8_i32
  let c0_i32_417 : BitVec 32 := 0#32
  ![v649.toNat, 0]
def k0_off1529 (v651 : BitVec 32) : Fin 2 → Nat :=
  let c0_i32_418 : BitVec 32 := 0#32
  ![v651.toNat, 0]

def k0_chk625 (v651 : BitVec 32) : Prop :=
  (∀ a, (k0_off1529 v651) a + S1x64.size a ≤ S1000000x64.size a)
instance k0_chk625.dec : ∀ (v651 : BitVec 32), Decidable (k0_chk625 v651) := fun v651 => decidable_of_iff' _ (Iff.of_eq (k0_chk625.eq_1 v651))
theorem k0_off1529_inb : ∀ (v651 : BitVec 32) (k0_hw625 : k0_chk625 v651), ∀ a, (k0_off1529 v651) a + S1x64.size a ≤ S1000000x64.size a := fun v651 k0_hw625 => k0_hw625

def k0_off1530 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_416 : BitVec 32 := 16#32
  let v648 : BitVec 32 := Scalar.muli arg13 c16_i32_416
  let c8_i32 : BitVec 32 := 8#32
  let v649 : BitVec 32 := Scalar.addi v648 c8_i32
  let c0_i32_419 : BitVec 32 := 0#32
  ![v649.toNat, 0]
def k0_off1531 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_416 : BitVec 32 := 16#32
  let v648 : BitVec 32 := Scalar.muli arg13 c16_i32_416
  let c8_i32 : BitVec 32 := 8#32
  let v649 : BitVec 32 := Scalar.addi v648 c8_i32
  let c5_i32_421 : BitVec 32 := 5#32
  let v662 : BitVec 32 := Scalar.muli v649 c5_i32_421
  let c0_i32_422 : BitVec 32 := 0#32
  let v663 : BitVec 32 := Scalar.addi v662 c0_i32_422
  let c0_i32_423 : BitVec 32 := 0#32
  ![v663.toNat, 0]
def k0_off1532 (v661 : BitVec 32) : Fin 2 → Nat :=
  let c0_i32_424 : BitVec 32 := 0#32
  ![v661.toNat, 0]

def k0_chk626 (v661 : BitVec 32) : Prop :=
  (∀ a, (k0_off1532 v661) a + S1x64.size a ≤ S1000000x64.size a)
instance k0_chk626.dec : ∀ (v661 : BitVec 32), Decidable (k0_chk626 v661) := fun v661 => decidable_of_iff' _ (Iff.of_eq (k0_chk626.eq_1 v661))
theorem k0_off1532_inb : ∀ (v661 : BitVec 32) (k0_hw626 : k0_chk626 v661), ∀ a, (k0_off1532 v661) a + S1x64.size a ≤ S1000000x64.size a := fun v661 k0_hw626 => k0_hw626

def k0_off1533 (k0_t19 : Fin k0_t19_loop.trips) (c0_i32_422 : BitVec 32) : Fin 2 → Nat :=
  let c0_i32_89 : BitVec 32 := 0#32
  let c1_i32_91 : BitVec 32 := 1#32
  let arg13 : BitVec 32 := Scf.iv c0_i32_89 c1_i32_91 k0_t19
  let c16_i32_416 : BitVec 32 := 16#32
  let v648 : BitVec 32 := Scalar.muli arg13 c16_i32_416
  let c8_i32 : BitVec 32 := 8#32
  let v649 : BitVec 32 := Scalar.addi v648 c8_i32
  let c5_i32_421 : BitVec 32 := 5#32
  let v662 : BitVec 32 := Scalar.muli v649 c5_i32_421
  let v663 : BitVec 32 := Scalar.addi v662 c0_i32_422
  let c0_i32_425 : BitVec 32 := 0#32
  ![v663.toNat, 0]
def k0_off1534 (v673 : BitVec 32) : Fin 2 → Nat :=
  let c0_i32_430 : BitVec 32 := 0#32
  ![v673.toNat, 0]

def k0_chk627 (v673 : BitVec 32) : Prop :=
  (∀ a, (k0_off1534 v673) a + S1x64.size a ≤ S1000000x64.size a)
instance k0_chk627.dec : ∀ (v673 : BitVec 32), Decidable (k0_chk627 v673) := fun v673 => decidable_of_iff' _ (Iff.of_eq (k0_chk627.eq_1 v673))
theorem k0_off1534_inb : ∀ (v673 : BitVec 32) (k0_hw627 : k0_chk627 v673), ∀ a, (k0_off1534 v673) a + S1x64.size a ≤ S1000000x64.size a := fun v673 k0_hw627 => k0_hw627

def k0_off1535 (k0_t19 : Fin k0_t19_loop.trips) (c1_i32_428 : BitVec 32) : Fin 2 → Nat :=
  let c0_i32_89 : BitVec 32 := 0#32
  let c1_i32_91 : BitVec 32 := 1#32
  let arg13 : BitVec 32 := Scf.iv c0_i32_89 c1_i32_91 k0_t19
  let c16_i32_416 : BitVec 32 := 16#32
  let v648 : BitVec 32 := Scalar.muli arg13 c16_i32_416
  let c8_i32 : BitVec 32 := 8#32
  let v649 : BitVec 32 := Scalar.addi v648 c8_i32
  let c5_i32_427 : BitVec 32 := 5#32
  let v674 : BitVec 32 := Scalar.muli v649 c5_i32_427
  let v675 : BitVec 32 := Scalar.addi v674 c1_i32_428
  let c0_i32_431 : BitVec 32 := 0#32
  ![v675.toNat, 0]
def k0_off1536 (v685 : BitVec 32) : Fin 2 → Nat :=
  let c0_i32_436 : BitVec 32 := 0#32
  ![v685.toNat, 0]

def k0_chk628 (v685 : BitVec 32) : Prop :=
  (∀ a, (k0_off1536 v685) a + S1x64.size a ≤ S1000000x64.size a)
instance k0_chk628.dec : ∀ (v685 : BitVec 32), Decidable (k0_chk628 v685) := fun v685 => decidable_of_iff' _ (Iff.of_eq (k0_chk628.eq_1 v685))
theorem k0_off1536_inb : ∀ (v685 : BitVec 32) (k0_hw628 : k0_chk628 v685), ∀ a, (k0_off1536 v685) a + S1x64.size a ≤ S1000000x64.size a := fun v685 k0_hw628 => k0_hw628

def k0_off1537 (k0_t19 : Fin k0_t19_loop.trips) (c2_i32_434 : BitVec 32) : Fin 2 → Nat :=
  let c0_i32_89 : BitVec 32 := 0#32
  let c1_i32_91 : BitVec 32 := 1#32
  let arg13 : BitVec 32 := Scf.iv c0_i32_89 c1_i32_91 k0_t19
  let c16_i32_416 : BitVec 32 := 16#32
  let v648 : BitVec 32 := Scalar.muli arg13 c16_i32_416
  let c8_i32 : BitVec 32 := 8#32
  let v649 : BitVec 32 := Scalar.addi v648 c8_i32
  let c5_i32_433 : BitVec 32 := 5#32
  let v686 : BitVec 32 := Scalar.muli v649 c5_i32_433
  let v687 : BitVec 32 := Scalar.addi v686 c2_i32_434
  let c0_i32_437 : BitVec 32 := 0#32
  ![v687.toNat, 0]
def k0_off1538 (v697 : BitVec 32) : Fin 2 → Nat :=
  let c0_i32_442 : BitVec 32 := 0#32
  ![v697.toNat, 0]

def k0_chk629 (v697 : BitVec 32) : Prop :=
  (∀ a, (k0_off1538 v697) a + S1x64.size a ≤ S1000000x64.size a)
instance k0_chk629.dec : ∀ (v697 : BitVec 32), Decidable (k0_chk629 v697) := fun v697 => decidable_of_iff' _ (Iff.of_eq (k0_chk629.eq_1 v697))
theorem k0_off1538_inb : ∀ (v697 : BitVec 32) (k0_hw629 : k0_chk629 v697), ∀ a, (k0_off1538 v697) a + S1x64.size a ≤ S1000000x64.size a := fun v697 k0_hw629 => k0_hw629

def k0_off1539 (k0_t19 : Fin k0_t19_loop.trips) (c3_i32_440 : BitVec 32) : Fin 2 → Nat :=
  let c0_i32_89 : BitVec 32 := 0#32
  let c1_i32_91 : BitVec 32 := 1#32
  let arg13 : BitVec 32 := Scf.iv c0_i32_89 c1_i32_91 k0_t19
  let c16_i32_416 : BitVec 32 := 16#32
  let v648 : BitVec 32 := Scalar.muli arg13 c16_i32_416
  let c8_i32 : BitVec 32 := 8#32
  let v649 : BitVec 32 := Scalar.addi v648 c8_i32
  let c5_i32_439 : BitVec 32 := 5#32
  let v698 : BitVec 32 := Scalar.muli v649 c5_i32_439
  let v699 : BitVec 32 := Scalar.addi v698 c3_i32_440
  let c0_i32_443 : BitVec 32 := 0#32
  ![v699.toNat, 0]
def k0_off1540 (v709 : BitVec 32) : Fin 2 → Nat :=
  let c0_i32_448 : BitVec 32 := 0#32
  ![v709.toNat, 0]

def k0_chk630 (v709 : BitVec 32) : Prop :=
  (∀ a, (k0_off1540 v709) a + S1x64.size a ≤ S1000000x64.size a)
instance k0_chk630.dec : ∀ (v709 : BitVec 32), Decidable (k0_chk630 v709) := fun v709 => decidable_of_iff' _ (Iff.of_eq (k0_chk630.eq_1 v709))
theorem k0_off1540_inb : ∀ (v709 : BitVec 32) (k0_hw630 : k0_chk630 v709), ∀ a, (k0_off1540 v709) a + S1x64.size a ≤ S1000000x64.size a := fun v709 k0_hw630 => k0_hw630

def k0_off1541 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_416 : BitVec 32 := 16#32
  let v648 : BitVec 32 := Scalar.muli arg13 c16_i32_416
  let c8_i32 : BitVec 32 := 8#32
  let v649 : BitVec 32 := Scalar.addi v648 c8_i32
  let c5_i32_445 : BitVec 32 := 5#32
  let v710 : BitVec 32 := Scalar.muli v649 c5_i32_445
  let c4_i32_446 : BitVec 32 := 4#32
  let v711 : BitVec 32 := Scalar.addi v710 c4_i32_446
  let c0_i32_449 : BitVec 32 := 0#32
  ![v711.toNat, 0]
def k0_off1542 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_451 : BitVec 32 := 16#32
  let v720 : BitVec 32 := Scalar.muli arg13 c16_i32_451
  let c9_i32 : BitVec 32 := 9#32
  let v721 : BitVec 32 := Scalar.addi v720 c9_i32
  let c0_i32_452 : BitVec 32 := 0#32
  ![v721.toNat, 0]
def k0_off1543 (v723 : BitVec 32) : Fin 2 → Nat :=
  let c0_i32_453 : BitVec 32 := 0#32
  ![v723.toNat, 0]

def k0_chk631 (v723 : BitVec 32) : Prop :=
  (∀ a, (k0_off1543 v723) a + S1x64.size a ≤ S1000000x64.size a)
instance k0_chk631.dec : ∀ (v723 : BitVec 32), Decidable (k0_chk631 v723) := fun v723 => decidable_of_iff' _ (Iff.of_eq (k0_chk631.eq_1 v723))
theorem k0_off1543_inb : ∀ (v723 : BitVec 32) (k0_hw631 : k0_chk631 v723), ∀ a, (k0_off1543 v723) a + S1x64.size a ≤ S1000000x64.size a := fun v723 k0_hw631 => k0_hw631

def k0_off1544 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_451 : BitVec 32 := 16#32
  let v720 : BitVec 32 := Scalar.muli arg13 c16_i32_451
  let c9_i32 : BitVec 32 := 9#32
  let v721 : BitVec 32 := Scalar.addi v720 c9_i32
  let c0_i32_454 : BitVec 32 := 0#32
  ![v721.toNat, 0]
def k0_off1545 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_451 : BitVec 32 := 16#32
  let v720 : BitVec 32 := Scalar.muli arg13 c16_i32_451
  let c9_i32 : BitVec 32 := 9#32
  let v721 : BitVec 32 := Scalar.addi v720 c9_i32
  let c5_i32_456 : BitVec 32 := 5#32
  let v734 : BitVec 32 := Scalar.muli v721 c5_i32_456
  let c0_i32_457 : BitVec 32 := 0#32
  let v735 : BitVec 32 := Scalar.addi v734 c0_i32_457
  let c0_i32_458 : BitVec 32 := 0#32
  ![v735.toNat, 0]
def k0_off1546 (v733 : BitVec 32) : Fin 2 → Nat :=
  let c0_i32_459 : BitVec 32 := 0#32
  ![v733.toNat, 0]

def k0_chk632 (v733 : BitVec 32) : Prop :=
  (∀ a, (k0_off1546 v733) a + S1x64.size a ≤ S1000000x64.size a)
instance k0_chk632.dec : ∀ (v733 : BitVec 32), Decidable (k0_chk632 v733) := fun v733 => decidable_of_iff' _ (Iff.of_eq (k0_chk632.eq_1 v733))
theorem k0_off1546_inb : ∀ (v733 : BitVec 32) (k0_hw632 : k0_chk632 v733), ∀ a, (k0_off1546 v733) a + S1x64.size a ≤ S1000000x64.size a := fun v733 k0_hw632 => k0_hw632

def k0_off1547 (k0_t19 : Fin k0_t19_loop.trips) (c0_i32_457 : BitVec 32) : Fin 2 → Nat :=
  let c0_i32_89 : BitVec 32 := 0#32
  let c1_i32_91 : BitVec 32 := 1#32
  let arg13 : BitVec 32 := Scf.iv c0_i32_89 c1_i32_91 k0_t19
  let c16_i32_451 : BitVec 32 := 16#32
  let v720 : BitVec 32 := Scalar.muli arg13 c16_i32_451
  let c9_i32 : BitVec 32 := 9#32
  let v721 : BitVec 32 := Scalar.addi v720 c9_i32
  let c5_i32_456 : BitVec 32 := 5#32
  let v734 : BitVec 32 := Scalar.muli v721 c5_i32_456
  let v735 : BitVec 32 := Scalar.addi v734 c0_i32_457
  let c0_i32_460 : BitVec 32 := 0#32
  ![v735.toNat, 0]
def k0_off1548 (v745 : BitVec 32) : Fin 2 → Nat :=
  let c0_i32_465 : BitVec 32 := 0#32
  ![v745.toNat, 0]

def k0_chk633 (v745 : BitVec 32) : Prop :=
  (∀ a, (k0_off1548 v745) a + S1x64.size a ≤ S1000000x64.size a)
instance k0_chk633.dec : ∀ (v745 : BitVec 32), Decidable (k0_chk633 v745) := fun v745 => decidable_of_iff' _ (Iff.of_eq (k0_chk633.eq_1 v745))
theorem k0_off1548_inb : ∀ (v745 : BitVec 32) (k0_hw633 : k0_chk633 v745), ∀ a, (k0_off1548 v745) a + S1x64.size a ≤ S1000000x64.size a := fun v745 k0_hw633 => k0_hw633

def k0_off1549 (k0_t19 : Fin k0_t19_loop.trips) (c1_i32_463 : BitVec 32) : Fin 2 → Nat :=
  let c0_i32_89 : BitVec 32 := 0#32
  let c1_i32_91 : BitVec 32 := 1#32
  let arg13 : BitVec 32 := Scf.iv c0_i32_89 c1_i32_91 k0_t19
  let c16_i32_451 : BitVec 32 := 16#32
  let v720 : BitVec 32 := Scalar.muli arg13 c16_i32_451
  let c9_i32 : BitVec 32 := 9#32
  let v721 : BitVec 32 := Scalar.addi v720 c9_i32
  let c5_i32_462 : BitVec 32 := 5#32
  let v746 : BitVec 32 := Scalar.muli v721 c5_i32_462
  let v747 : BitVec 32 := Scalar.addi v746 c1_i32_463
  let c0_i32_466 : BitVec 32 := 0#32
  ![v747.toNat, 0]
def k0_off1550 (v757 : BitVec 32) : Fin 2 → Nat :=
  let c0_i32_471 : BitVec 32 := 0#32
  ![v757.toNat, 0]

def k0_chk634 (v757 : BitVec 32) : Prop :=
  (∀ a, (k0_off1550 v757) a + S1x64.size a ≤ S1000000x64.size a)
instance k0_chk634.dec : ∀ (v757 : BitVec 32), Decidable (k0_chk634 v757) := fun v757 => decidable_of_iff' _ (Iff.of_eq (k0_chk634.eq_1 v757))
theorem k0_off1550_inb : ∀ (v757 : BitVec 32) (k0_hw634 : k0_chk634 v757), ∀ a, (k0_off1550 v757) a + S1x64.size a ≤ S1000000x64.size a := fun v757 k0_hw634 => k0_hw634

def k0_off1551 (k0_t19 : Fin k0_t19_loop.trips) (c2_i32_469 : BitVec 32) : Fin 2 → Nat :=
  let c0_i32_89 : BitVec 32 := 0#32
  let c1_i32_91 : BitVec 32 := 1#32
  let arg13 : BitVec 32 := Scf.iv c0_i32_89 c1_i32_91 k0_t19
  let c16_i32_451 : BitVec 32 := 16#32
  let v720 : BitVec 32 := Scalar.muli arg13 c16_i32_451
  let c9_i32 : BitVec 32 := 9#32
  let v721 : BitVec 32 := Scalar.addi v720 c9_i32
  let c5_i32_468 : BitVec 32 := 5#32
  let v758 : BitVec 32 := Scalar.muli v721 c5_i32_468
  let v759 : BitVec 32 := Scalar.addi v758 c2_i32_469
  let c0_i32_472 : BitVec 32 := 0#32
  ![v759.toNat, 0]
def k0_off1552 (v769 : BitVec 32) : Fin 2 → Nat :=
  let c0_i32_477 : BitVec 32 := 0#32
  ![v769.toNat, 0]

def k0_chk635 (v769 : BitVec 32) : Prop :=
  (∀ a, (k0_off1552 v769) a + S1x64.size a ≤ S1000000x64.size a)
instance k0_chk635.dec : ∀ (v769 : BitVec 32), Decidable (k0_chk635 v769) := fun v769 => decidable_of_iff' _ (Iff.of_eq (k0_chk635.eq_1 v769))
theorem k0_off1552_inb : ∀ (v769 : BitVec 32) (k0_hw635 : k0_chk635 v769), ∀ a, (k0_off1552 v769) a + S1x64.size a ≤ S1000000x64.size a := fun v769 k0_hw635 => k0_hw635

def k0_off1553 (k0_t19 : Fin k0_t19_loop.trips) (c3_i32_475 : BitVec 32) : Fin 2 → Nat :=
  let c0_i32_89 : BitVec 32 := 0#32
  let c1_i32_91 : BitVec 32 := 1#32
  let arg13 : BitVec 32 := Scf.iv c0_i32_89 c1_i32_91 k0_t19
  let c16_i32_451 : BitVec 32 := 16#32
  let v720 : BitVec 32 := Scalar.muli arg13 c16_i32_451
  let c9_i32 : BitVec 32 := 9#32
  let v721 : BitVec 32 := Scalar.addi v720 c9_i32
  let c5_i32_474 : BitVec 32 := 5#32
  let v770 : BitVec 32 := Scalar.muli v721 c5_i32_474
  let v771 : BitVec 32 := Scalar.addi v770 c3_i32_475
  let c0_i32_478 : BitVec 32 := 0#32
  ![v771.toNat, 0]
def k0_off1554 (v781 : BitVec 32) : Fin 2 → Nat :=
  let c0_i32_483 : BitVec 32 := 0#32
  ![v781.toNat, 0]

def k0_chk636 (v781 : BitVec 32) : Prop :=
  (∀ a, (k0_off1554 v781) a + S1x64.size a ≤ S1000000x64.size a)
instance k0_chk636.dec : ∀ (v781 : BitVec 32), Decidable (k0_chk636 v781) := fun v781 => decidable_of_iff' _ (Iff.of_eq (k0_chk636.eq_1 v781))
theorem k0_off1554_inb : ∀ (v781 : BitVec 32) (k0_hw636 : k0_chk636 v781), ∀ a, (k0_off1554 v781) a + S1x64.size a ≤ S1000000x64.size a := fun v781 k0_hw636 => k0_hw636

def k0_off1555 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_451 : BitVec 32 := 16#32
  let v720 : BitVec 32 := Scalar.muli arg13 c16_i32_451
  let c9_i32 : BitVec 32 := 9#32
  let v721 : BitVec 32 := Scalar.addi v720 c9_i32
  let c5_i32_480 : BitVec 32 := 5#32
  let v782 : BitVec 32 := Scalar.muli v721 c5_i32_480
  let c4_i32_481 : BitVec 32 := 4#32
  let v783 : BitVec 32 := Scalar.addi v782 c4_i32_481
  let c0_i32_484 : BitVec 32 := 0#32
  ![v783.toNat, 0]
def k0_off1556 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_486 : BitVec 32 := 16#32
  let v792 : BitVec 32 := Scalar.muli arg13 c16_i32_486
  let c10_i32 : BitVec 32 := 10#32
  let v793 : BitVec 32 := Scalar.addi v792 c10_i32
  let c0_i32_487 : BitVec 32 := 0#32
  ![v793.toNat, 0]
def k0_off1557 (v795 : BitVec 32) : Fin 2 → Nat :=
  let c0_i32_488 : BitVec 32 := 0#32
  ![v795.toNat, 0]

def k0_chk637 (v795 : BitVec 32) : Prop :=
  (∀ a, (k0_off1557 v795) a + S1x64.size a ≤ S1000000x64.size a)
instance k0_chk637.dec : ∀ (v795 : BitVec 32), Decidable (k0_chk637 v795) := fun v795 => decidable_of_iff' _ (Iff.of_eq (k0_chk637.eq_1 v795))
theorem k0_off1557_inb : ∀ (v795 : BitVec 32) (k0_hw637 : k0_chk637 v795), ∀ a, (k0_off1557 v795) a + S1x64.size a ≤ S1000000x64.size a := fun v795 k0_hw637 => k0_hw637

def k0_off1558 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_486 : BitVec 32 := 16#32
  let v792 : BitVec 32 := Scalar.muli arg13 c16_i32_486
  let c10_i32 : BitVec 32 := 10#32
  let v793 : BitVec 32 := Scalar.addi v792 c10_i32
  let c0_i32_489 : BitVec 32 := 0#32
  ![v793.toNat, 0]
def k0_off1559 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_486 : BitVec 32 := 16#32
  let v792 : BitVec 32 := Scalar.muli arg13 c16_i32_486
  let c10_i32 : BitVec 32 := 10#32
  let v793 : BitVec 32 := Scalar.addi v792 c10_i32
  let c5_i32_491 : BitVec 32 := 5#32
  let v806 : BitVec 32 := Scalar.muli v793 c5_i32_491
  let c0_i32_492 : BitVec 32 := 0#32
  let v807 : BitVec 32 := Scalar.addi v806 c0_i32_492
  let c0_i32_493 : BitVec 32 := 0#32
  ![v807.toNat, 0]
def k0_off1560 (v805 : BitVec 32) : Fin 2 → Nat :=
  let c0_i32_494 : BitVec 32 := 0#32
  ![v805.toNat, 0]

def k0_chk638 (v805 : BitVec 32) : Prop :=
  (∀ a, (k0_off1560 v805) a + S1x64.size a ≤ S1000000x64.size a)
instance k0_chk638.dec : ∀ (v805 : BitVec 32), Decidable (k0_chk638 v805) := fun v805 => decidable_of_iff' _ (Iff.of_eq (k0_chk638.eq_1 v805))
theorem k0_off1560_inb : ∀ (v805 : BitVec 32) (k0_hw638 : k0_chk638 v805), ∀ a, (k0_off1560 v805) a + S1x64.size a ≤ S1000000x64.size a := fun v805 k0_hw638 => k0_hw638

def k0_off1561 (k0_t19 : Fin k0_t19_loop.trips) (c0_i32_492 : BitVec 32) : Fin 2 → Nat :=
  let c0_i32_89 : BitVec 32 := 0#32
  let c1_i32_91 : BitVec 32 := 1#32
  let arg13 : BitVec 32 := Scf.iv c0_i32_89 c1_i32_91 k0_t19
  let c16_i32_486 : BitVec 32 := 16#32
  let v792 : BitVec 32 := Scalar.muli arg13 c16_i32_486
  let c10_i32 : BitVec 32 := 10#32
  let v793 : BitVec 32 := Scalar.addi v792 c10_i32
  let c5_i32_491 : BitVec 32 := 5#32
  let v806 : BitVec 32 := Scalar.muli v793 c5_i32_491
  let v807 : BitVec 32 := Scalar.addi v806 c0_i32_492
  let c0_i32_495 : BitVec 32 := 0#32
  ![v807.toNat, 0]
def k0_off1562 (v817 : BitVec 32) : Fin 2 → Nat :=
  let c0_i32_500 : BitVec 32 := 0#32
  ![v817.toNat, 0]

def k0_chk639 (v817 : BitVec 32) : Prop :=
  (∀ a, (k0_off1562 v817) a + S1x64.size a ≤ S1000000x64.size a)
instance k0_chk639.dec : ∀ (v817 : BitVec 32), Decidable (k0_chk639 v817) := fun v817 => decidable_of_iff' _ (Iff.of_eq (k0_chk639.eq_1 v817))
theorem k0_off1562_inb : ∀ (v817 : BitVec 32) (k0_hw639 : k0_chk639 v817), ∀ a, (k0_off1562 v817) a + S1x64.size a ≤ S1000000x64.size a := fun v817 k0_hw639 => k0_hw639

def k0_off1563 (k0_t19 : Fin k0_t19_loop.trips) (c1_i32_498 : BitVec 32) : Fin 2 → Nat :=
  let c0_i32_89 : BitVec 32 := 0#32
  let c1_i32_91 : BitVec 32 := 1#32
  let arg13 : BitVec 32 := Scf.iv c0_i32_89 c1_i32_91 k0_t19
  let c16_i32_486 : BitVec 32 := 16#32
  let v792 : BitVec 32 := Scalar.muli arg13 c16_i32_486
  let c10_i32 : BitVec 32 := 10#32
  let v793 : BitVec 32 := Scalar.addi v792 c10_i32
  let c5_i32_497 : BitVec 32 := 5#32
  let v818 : BitVec 32 := Scalar.muli v793 c5_i32_497
  let v819 : BitVec 32 := Scalar.addi v818 c1_i32_498
  let c0_i32_501 : BitVec 32 := 0#32
  ![v819.toNat, 0]
def k0_off1564 (v829 : BitVec 32) : Fin 2 → Nat :=
  let c0_i32_506 : BitVec 32 := 0#32
  ![v829.toNat, 0]

def k0_chk640 (v829 : BitVec 32) : Prop :=
  (∀ a, (k0_off1564 v829) a + S1x64.size a ≤ S1000000x64.size a)
instance k0_chk640.dec : ∀ (v829 : BitVec 32), Decidable (k0_chk640 v829) := fun v829 => decidable_of_iff' _ (Iff.of_eq (k0_chk640.eq_1 v829))
theorem k0_off1564_inb : ∀ (v829 : BitVec 32) (k0_hw640 : k0_chk640 v829), ∀ a, (k0_off1564 v829) a + S1x64.size a ≤ S1000000x64.size a := fun v829 k0_hw640 => k0_hw640

def k0_off1565 (k0_t19 : Fin k0_t19_loop.trips) (c2_i32_504 : BitVec 32) : Fin 2 → Nat :=
  let c0_i32_89 : BitVec 32 := 0#32
  let c1_i32_91 : BitVec 32 := 1#32
  let arg13 : BitVec 32 := Scf.iv c0_i32_89 c1_i32_91 k0_t19
  let c16_i32_486 : BitVec 32 := 16#32
  let v792 : BitVec 32 := Scalar.muli arg13 c16_i32_486
  let c10_i32 : BitVec 32 := 10#32
  let v793 : BitVec 32 := Scalar.addi v792 c10_i32
  let c5_i32_503 : BitVec 32 := 5#32
  let v830 : BitVec 32 := Scalar.muli v793 c5_i32_503
  let v831 : BitVec 32 := Scalar.addi v830 c2_i32_504
  let c0_i32_507 : BitVec 32 := 0#32
  ![v831.toNat, 0]
def k0_off1566 (v841 : BitVec 32) : Fin 2 → Nat :=
  let c0_i32_512 : BitVec 32 := 0#32
  ![v841.toNat, 0]

def k0_chk641 (v841 : BitVec 32) : Prop :=
  (∀ a, (k0_off1566 v841) a + S1x64.size a ≤ S1000000x64.size a)
instance k0_chk641.dec : ∀ (v841 : BitVec 32), Decidable (k0_chk641 v841) := fun v841 => decidable_of_iff' _ (Iff.of_eq (k0_chk641.eq_1 v841))
theorem k0_off1566_inb : ∀ (v841 : BitVec 32) (k0_hw641 : k0_chk641 v841), ∀ a, (k0_off1566 v841) a + S1x64.size a ≤ S1000000x64.size a := fun v841 k0_hw641 => k0_hw641

def k0_off1567 (k0_t19 : Fin k0_t19_loop.trips) (c3_i32_510 : BitVec 32) : Fin 2 → Nat :=
  let c0_i32_89 : BitVec 32 := 0#32
  let c1_i32_91 : BitVec 32 := 1#32
  let arg13 : BitVec 32 := Scf.iv c0_i32_89 c1_i32_91 k0_t19
  let c16_i32_486 : BitVec 32 := 16#32
  let v792 : BitVec 32 := Scalar.muli arg13 c16_i32_486
  let c10_i32 : BitVec 32 := 10#32
  let v793 : BitVec 32 := Scalar.addi v792 c10_i32
  let c5_i32_509 : BitVec 32 := 5#32
  let v842 : BitVec 32 := Scalar.muli v793 c5_i32_509
  let v843 : BitVec 32 := Scalar.addi v842 c3_i32_510
  let c0_i32_513 : BitVec 32 := 0#32
  ![v843.toNat, 0]
def k0_off1568 (v853 : BitVec 32) : Fin 2 → Nat :=
  let c0_i32_518 : BitVec 32 := 0#32
  ![v853.toNat, 0]

def k0_chk642 (v853 : BitVec 32) : Prop :=
  (∀ a, (k0_off1568 v853) a + S1x64.size a ≤ S1000000x64.size a)
instance k0_chk642.dec : ∀ (v853 : BitVec 32), Decidable (k0_chk642 v853) := fun v853 => decidable_of_iff' _ (Iff.of_eq (k0_chk642.eq_1 v853))
theorem k0_off1568_inb : ∀ (v853 : BitVec 32) (k0_hw642 : k0_chk642 v853), ∀ a, (k0_off1568 v853) a + S1x64.size a ≤ S1000000x64.size a := fun v853 k0_hw642 => k0_hw642

def k0_off1569 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_486 : BitVec 32 := 16#32
  let v792 : BitVec 32 := Scalar.muli arg13 c16_i32_486
  let c10_i32 : BitVec 32 := 10#32
  let v793 : BitVec 32 := Scalar.addi v792 c10_i32
  let c5_i32_515 : BitVec 32 := 5#32
  let v854 : BitVec 32 := Scalar.muli v793 c5_i32_515
  let c4_i32_516 : BitVec 32 := 4#32
  let v855 : BitVec 32 := Scalar.addi v854 c4_i32_516
  let c0_i32_519 : BitVec 32 := 0#32
  ![v855.toNat, 0]
def k0_off1570 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_521 : BitVec 32 := 16#32
  let v864 : BitVec 32 := Scalar.muli arg13 c16_i32_521
  let c11_i32 : BitVec 32 := 11#32
  let v865 : BitVec 32 := Scalar.addi v864 c11_i32
  let c0_i32_522 : BitVec 32 := 0#32
  ![v865.toNat, 0]
def k0_off1571 (v867 : BitVec 32) : Fin 2 → Nat :=
  let c0_i32_523 : BitVec 32 := 0#32
  ![v867.toNat, 0]

def k0_chk643 (v867 : BitVec 32) : Prop :=
  (∀ a, (k0_off1571 v867) a + S1x64.size a ≤ S1000000x64.size a)
instance k0_chk643.dec : ∀ (v867 : BitVec 32), Decidable (k0_chk643 v867) := fun v867 => decidable_of_iff' _ (Iff.of_eq (k0_chk643.eq_1 v867))
theorem k0_off1571_inb : ∀ (v867 : BitVec 32) (k0_hw643 : k0_chk643 v867), ∀ a, (k0_off1571 v867) a + S1x64.size a ≤ S1000000x64.size a := fun v867 k0_hw643 => k0_hw643

def k0_off1572 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_521 : BitVec 32 := 16#32
  let v864 : BitVec 32 := Scalar.muli arg13 c16_i32_521
  let c11_i32 : BitVec 32 := 11#32
  let v865 : BitVec 32 := Scalar.addi v864 c11_i32
  let c0_i32_524 : BitVec 32 := 0#32
  ![v865.toNat, 0]
def k0_off1573 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_521 : BitVec 32 := 16#32
  let v864 : BitVec 32 := Scalar.muli arg13 c16_i32_521
  let c11_i32 : BitVec 32 := 11#32
  let v865 : BitVec 32 := Scalar.addi v864 c11_i32
  let c5_i32_526 : BitVec 32 := 5#32
  let v878 : BitVec 32 := Scalar.muli v865 c5_i32_526
  let c0_i32_527 : BitVec 32 := 0#32
  let v879 : BitVec 32 := Scalar.addi v878 c0_i32_527
  let c0_i32_528 : BitVec 32 := 0#32
  ![v879.toNat, 0]
def k0_off1574 (v877 : BitVec 32) : Fin 2 → Nat :=
  let c0_i32_529 : BitVec 32 := 0#32
  ![v877.toNat, 0]

def k0_chk644 (v877 : BitVec 32) : Prop :=
  (∀ a, (k0_off1574 v877) a + S1x64.size a ≤ S1000000x64.size a)
instance k0_chk644.dec : ∀ (v877 : BitVec 32), Decidable (k0_chk644 v877) := fun v877 => decidable_of_iff' _ (Iff.of_eq (k0_chk644.eq_1 v877))
theorem k0_off1574_inb : ∀ (v877 : BitVec 32) (k0_hw644 : k0_chk644 v877), ∀ a, (k0_off1574 v877) a + S1x64.size a ≤ S1000000x64.size a := fun v877 k0_hw644 => k0_hw644

def k0_off1575 (k0_t19 : Fin k0_t19_loop.trips) (c0_i32_527 : BitVec 32) : Fin 2 → Nat :=
  let c0_i32_89 : BitVec 32 := 0#32
  let c1_i32_91 : BitVec 32 := 1#32
  let arg13 : BitVec 32 := Scf.iv c0_i32_89 c1_i32_91 k0_t19
  let c16_i32_521 : BitVec 32 := 16#32
  let v864 : BitVec 32 := Scalar.muli arg13 c16_i32_521
  let c11_i32 : BitVec 32 := 11#32
  let v865 : BitVec 32 := Scalar.addi v864 c11_i32
  let c5_i32_526 : BitVec 32 := 5#32
  let v878 : BitVec 32 := Scalar.muli v865 c5_i32_526
  let v879 : BitVec 32 := Scalar.addi v878 c0_i32_527
  let c0_i32_530 : BitVec 32 := 0#32
  ![v879.toNat, 0]
def k0_off1576 (v889 : BitVec 32) : Fin 2 → Nat :=
  let c0_i32_535 : BitVec 32 := 0#32
  ![v889.toNat, 0]

def k0_chk645 (v889 : BitVec 32) : Prop :=
  (∀ a, (k0_off1576 v889) a + S1x64.size a ≤ S1000000x64.size a)
instance k0_chk645.dec : ∀ (v889 : BitVec 32), Decidable (k0_chk645 v889) := fun v889 => decidable_of_iff' _ (Iff.of_eq (k0_chk645.eq_1 v889))
theorem k0_off1576_inb : ∀ (v889 : BitVec 32) (k0_hw645 : k0_chk645 v889), ∀ a, (k0_off1576 v889) a + S1x64.size a ≤ S1000000x64.size a := fun v889 k0_hw645 => k0_hw645

def k0_off1577 (k0_t19 : Fin k0_t19_loop.trips) (c1_i32_533 : BitVec 32) : Fin 2 → Nat :=
  let c0_i32_89 : BitVec 32 := 0#32
  let c1_i32_91 : BitVec 32 := 1#32
  let arg13 : BitVec 32 := Scf.iv c0_i32_89 c1_i32_91 k0_t19
  let c16_i32_521 : BitVec 32 := 16#32
  let v864 : BitVec 32 := Scalar.muli arg13 c16_i32_521
  let c11_i32 : BitVec 32 := 11#32
  let v865 : BitVec 32 := Scalar.addi v864 c11_i32
  let c5_i32_532 : BitVec 32 := 5#32
  let v890 : BitVec 32 := Scalar.muli v865 c5_i32_532
  let v891 : BitVec 32 := Scalar.addi v890 c1_i32_533
  let c0_i32_536 : BitVec 32 := 0#32
  ![v891.toNat, 0]
def k0_off1578 (v901 : BitVec 32) : Fin 2 → Nat :=
  let c0_i32_541 : BitVec 32 := 0#32
  ![v901.toNat, 0]

def k0_chk646 (v901 : BitVec 32) : Prop :=
  (∀ a, (k0_off1578 v901) a + S1x64.size a ≤ S1000000x64.size a)
instance k0_chk646.dec : ∀ (v901 : BitVec 32), Decidable (k0_chk646 v901) := fun v901 => decidable_of_iff' _ (Iff.of_eq (k0_chk646.eq_1 v901))
theorem k0_off1578_inb : ∀ (v901 : BitVec 32) (k0_hw646 : k0_chk646 v901), ∀ a, (k0_off1578 v901) a + S1x64.size a ≤ S1000000x64.size a := fun v901 k0_hw646 => k0_hw646

def k0_off1579 (k0_t19 : Fin k0_t19_loop.trips) (c2_i32_539 : BitVec 32) : Fin 2 → Nat :=
  let c0_i32_89 : BitVec 32 := 0#32
  let c1_i32_91 : BitVec 32 := 1#32
  let arg13 : BitVec 32 := Scf.iv c0_i32_89 c1_i32_91 k0_t19
  let c16_i32_521 : BitVec 32 := 16#32
  let v864 : BitVec 32 := Scalar.muli arg13 c16_i32_521
  let c11_i32 : BitVec 32 := 11#32
  let v865 : BitVec 32 := Scalar.addi v864 c11_i32
  let c5_i32_538 : BitVec 32 := 5#32
  let v902 : BitVec 32 := Scalar.muli v865 c5_i32_538
  let v903 : BitVec 32 := Scalar.addi v902 c2_i32_539
  let c0_i32_542 : BitVec 32 := 0#32
  ![v903.toNat, 0]
def k0_off1580 (v913 : BitVec 32) : Fin 2 → Nat :=
  let c0_i32_547 : BitVec 32 := 0#32
  ![v913.toNat, 0]

def k0_chk647 (v913 : BitVec 32) : Prop :=
  (∀ a, (k0_off1580 v913) a + S1x64.size a ≤ S1000000x64.size a)
instance k0_chk647.dec : ∀ (v913 : BitVec 32), Decidable (k0_chk647 v913) := fun v913 => decidable_of_iff' _ (Iff.of_eq (k0_chk647.eq_1 v913))
theorem k0_off1580_inb : ∀ (v913 : BitVec 32) (k0_hw647 : k0_chk647 v913), ∀ a, (k0_off1580 v913) a + S1x64.size a ≤ S1000000x64.size a := fun v913 k0_hw647 => k0_hw647

def k0_off1581 (k0_t19 : Fin k0_t19_loop.trips) (c3_i32_545 : BitVec 32) : Fin 2 → Nat :=
  let c0_i32_89 : BitVec 32 := 0#32
  let c1_i32_91 : BitVec 32 := 1#32
  let arg13 : BitVec 32 := Scf.iv c0_i32_89 c1_i32_91 k0_t19
  let c16_i32_521 : BitVec 32 := 16#32
  let v864 : BitVec 32 := Scalar.muli arg13 c16_i32_521
  let c11_i32 : BitVec 32 := 11#32
  let v865 : BitVec 32 := Scalar.addi v864 c11_i32
  let c5_i32_544 : BitVec 32 := 5#32
  let v914 : BitVec 32 := Scalar.muli v865 c5_i32_544
  let v915 : BitVec 32 := Scalar.addi v914 c3_i32_545
  let c0_i32_548 : BitVec 32 := 0#32
  ![v915.toNat, 0]
def k0_off1582 (v925 : BitVec 32) : Fin 2 → Nat :=
  let c0_i32_553 : BitVec 32 := 0#32
  ![v925.toNat, 0]

def k0_chk648 (v925 : BitVec 32) : Prop :=
  (∀ a, (k0_off1582 v925) a + S1x64.size a ≤ S1000000x64.size a)
instance k0_chk648.dec : ∀ (v925 : BitVec 32), Decidable (k0_chk648 v925) := fun v925 => decidable_of_iff' _ (Iff.of_eq (k0_chk648.eq_1 v925))
theorem k0_off1582_inb : ∀ (v925 : BitVec 32) (k0_hw648 : k0_chk648 v925), ∀ a, (k0_off1582 v925) a + S1x64.size a ≤ S1000000x64.size a := fun v925 k0_hw648 => k0_hw648

def k0_off1583 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_521 : BitVec 32 := 16#32
  let v864 : BitVec 32 := Scalar.muli arg13 c16_i32_521
  let c11_i32 : BitVec 32 := 11#32
  let v865 : BitVec 32 := Scalar.addi v864 c11_i32
  let c5_i32_550 : BitVec 32 := 5#32
  let v926 : BitVec 32 := Scalar.muli v865 c5_i32_550
  let c4_i32_551 : BitVec 32 := 4#32
  let v927 : BitVec 32 := Scalar.addi v926 c4_i32_551
  let c0_i32_554 : BitVec 32 := 0#32
  ![v927.toNat, 0]
def k0_off1584 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_556 : BitVec 32 := 16#32
  let v936 : BitVec 32 := Scalar.muli arg13 c16_i32_556
  let c12_i32 : BitVec 32 := 12#32
  let v937 : BitVec 32 := Scalar.addi v936 c12_i32
  let c0_i32_557 : BitVec 32 := 0#32
  ![v937.toNat, 0]
def k0_off1585 (v939 : BitVec 32) : Fin 2 → Nat :=
  let c0_i32_558 : BitVec 32 := 0#32
  ![v939.toNat, 0]

def k0_chk649 (v939 : BitVec 32) : Prop :=
  (∀ a, (k0_off1585 v939) a + S1x64.size a ≤ S1000000x64.size a)
instance k0_chk649.dec : ∀ (v939 : BitVec 32), Decidable (k0_chk649 v939) := fun v939 => decidable_of_iff' _ (Iff.of_eq (k0_chk649.eq_1 v939))
theorem k0_off1585_inb : ∀ (v939 : BitVec 32) (k0_hw649 : k0_chk649 v939), ∀ a, (k0_off1585 v939) a + S1x64.size a ≤ S1000000x64.size a := fun v939 k0_hw649 => k0_hw649

def k0_off1586 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_556 : BitVec 32 := 16#32
  let v936 : BitVec 32 := Scalar.muli arg13 c16_i32_556
  let c12_i32 : BitVec 32 := 12#32
  let v937 : BitVec 32 := Scalar.addi v936 c12_i32
  let c0_i32_559 : BitVec 32 := 0#32
  ![v937.toNat, 0]
def k0_off1587 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_556 : BitVec 32 := 16#32
  let v936 : BitVec 32 := Scalar.muli arg13 c16_i32_556
  let c12_i32 : BitVec 32 := 12#32
  let v937 : BitVec 32 := Scalar.addi v936 c12_i32
  let c5_i32_561 : BitVec 32 := 5#32
  let v950 : BitVec 32 := Scalar.muli v937 c5_i32_561
  let c0_i32_562 : BitVec 32 := 0#32
  let v951 : BitVec 32 := Scalar.addi v950 c0_i32_562
  let c0_i32_563 : BitVec 32 := 0#32
  ![v951.toNat, 0]
def k0_off1588 (v949 : BitVec 32) : Fin 2 → Nat :=
  let c0_i32_564 : BitVec 32 := 0#32
  ![v949.toNat, 0]

def k0_chk650 (v949 : BitVec 32) : Prop :=
  (∀ a, (k0_off1588 v949) a + S1x64.size a ≤ S1000000x64.size a)
instance k0_chk650.dec : ∀ (v949 : BitVec 32), Decidable (k0_chk650 v949) := fun v949 => decidable_of_iff' _ (Iff.of_eq (k0_chk650.eq_1 v949))
theorem k0_off1588_inb : ∀ (v949 : BitVec 32) (k0_hw650 : k0_chk650 v949), ∀ a, (k0_off1588 v949) a + S1x64.size a ≤ S1000000x64.size a := fun v949 k0_hw650 => k0_hw650

def k0_off1589 (k0_t19 : Fin k0_t19_loop.trips) (c0_i32_562 : BitVec 32) : Fin 2 → Nat :=
  let c0_i32_89 : BitVec 32 := 0#32
  let c1_i32_91 : BitVec 32 := 1#32
  let arg13 : BitVec 32 := Scf.iv c0_i32_89 c1_i32_91 k0_t19
  let c16_i32_556 : BitVec 32 := 16#32
  let v936 : BitVec 32 := Scalar.muli arg13 c16_i32_556
  let c12_i32 : BitVec 32 := 12#32
  let v937 : BitVec 32 := Scalar.addi v936 c12_i32
  let c5_i32_561 : BitVec 32 := 5#32
  let v950 : BitVec 32 := Scalar.muli v937 c5_i32_561
  let v951 : BitVec 32 := Scalar.addi v950 c0_i32_562
  let c0_i32_565 : BitVec 32 := 0#32
  ![v951.toNat, 0]
def k0_off1590 (v961 : BitVec 32) : Fin 2 → Nat :=
  let c0_i32_570 : BitVec 32 := 0#32
  ![v961.toNat, 0]

def k0_chk651 (v961 : BitVec 32) : Prop :=
  (∀ a, (k0_off1590 v961) a + S1x64.size a ≤ S1000000x64.size a)
instance k0_chk651.dec : ∀ (v961 : BitVec 32), Decidable (k0_chk651 v961) := fun v961 => decidable_of_iff' _ (Iff.of_eq (k0_chk651.eq_1 v961))
theorem k0_off1590_inb : ∀ (v961 : BitVec 32) (k0_hw651 : k0_chk651 v961), ∀ a, (k0_off1590 v961) a + S1x64.size a ≤ S1000000x64.size a := fun v961 k0_hw651 => k0_hw651

def k0_off1591 (k0_t19 : Fin k0_t19_loop.trips) (c1_i32_568 : BitVec 32) : Fin 2 → Nat :=
  let c0_i32_89 : BitVec 32 := 0#32
  let c1_i32_91 : BitVec 32 := 1#32
  let arg13 : BitVec 32 := Scf.iv c0_i32_89 c1_i32_91 k0_t19
  let c16_i32_556 : BitVec 32 := 16#32
  let v936 : BitVec 32 := Scalar.muli arg13 c16_i32_556
  let c12_i32 : BitVec 32 := 12#32
  let v937 : BitVec 32 := Scalar.addi v936 c12_i32
  let c5_i32_567 : BitVec 32 := 5#32
  let v962 : BitVec 32 := Scalar.muli v937 c5_i32_567
  let v963 : BitVec 32 := Scalar.addi v962 c1_i32_568
  let c0_i32_571 : BitVec 32 := 0#32
  ![v963.toNat, 0]
def k0_off1592 (v973 : BitVec 32) : Fin 2 → Nat :=
  let c0_i32_576 : BitVec 32 := 0#32
  ![v973.toNat, 0]

def k0_chk652 (v973 : BitVec 32) : Prop :=
  (∀ a, (k0_off1592 v973) a + S1x64.size a ≤ S1000000x64.size a)
instance k0_chk652.dec : ∀ (v973 : BitVec 32), Decidable (k0_chk652 v973) := fun v973 => decidable_of_iff' _ (Iff.of_eq (k0_chk652.eq_1 v973))
theorem k0_off1592_inb : ∀ (v973 : BitVec 32) (k0_hw652 : k0_chk652 v973), ∀ a, (k0_off1592 v973) a + S1x64.size a ≤ S1000000x64.size a := fun v973 k0_hw652 => k0_hw652

def k0_off1593 (k0_t19 : Fin k0_t19_loop.trips) (c2_i32_574 : BitVec 32) : Fin 2 → Nat :=
  let c0_i32_89 : BitVec 32 := 0#32
  let c1_i32_91 : BitVec 32 := 1#32
  let arg13 : BitVec 32 := Scf.iv c0_i32_89 c1_i32_91 k0_t19
  let c16_i32_556 : BitVec 32 := 16#32
  let v936 : BitVec 32 := Scalar.muli arg13 c16_i32_556
  let c12_i32 : BitVec 32 := 12#32
  let v937 : BitVec 32 := Scalar.addi v936 c12_i32
  let c5_i32_573 : BitVec 32 := 5#32
  let v974 : BitVec 32 := Scalar.muli v937 c5_i32_573
  let v975 : BitVec 32 := Scalar.addi v974 c2_i32_574
  let c0_i32_577 : BitVec 32 := 0#32
  ![v975.toNat, 0]
def k0_off1594 (v985 : BitVec 32) : Fin 2 → Nat :=
  let c0_i32_582 : BitVec 32 := 0#32
  ![v985.toNat, 0]

def k0_chk653 (v985 : BitVec 32) : Prop :=
  (∀ a, (k0_off1594 v985) a + S1x64.size a ≤ S1000000x64.size a)
instance k0_chk653.dec : ∀ (v985 : BitVec 32), Decidable (k0_chk653 v985) := fun v985 => decidable_of_iff' _ (Iff.of_eq (k0_chk653.eq_1 v985))
theorem k0_off1594_inb : ∀ (v985 : BitVec 32) (k0_hw653 : k0_chk653 v985), ∀ a, (k0_off1594 v985) a + S1x64.size a ≤ S1000000x64.size a := fun v985 k0_hw653 => k0_hw653

def k0_off1595 (k0_t19 : Fin k0_t19_loop.trips) (c3_i32_580 : BitVec 32) : Fin 2 → Nat :=
  let c0_i32_89 : BitVec 32 := 0#32
  let c1_i32_91 : BitVec 32 := 1#32
  let arg13 : BitVec 32 := Scf.iv c0_i32_89 c1_i32_91 k0_t19
  let c16_i32_556 : BitVec 32 := 16#32
  let v936 : BitVec 32 := Scalar.muli arg13 c16_i32_556
  let c12_i32 : BitVec 32 := 12#32
  let v937 : BitVec 32 := Scalar.addi v936 c12_i32
  let c5_i32_579 : BitVec 32 := 5#32
  let v986 : BitVec 32 := Scalar.muli v937 c5_i32_579
  let v987 : BitVec 32 := Scalar.addi v986 c3_i32_580
  let c0_i32_583 : BitVec 32 := 0#32
  ![v987.toNat, 0]
def k0_off1596 (v997 : BitVec 32) : Fin 2 → Nat :=
  let c0_i32_588 : BitVec 32 := 0#32
  ![v997.toNat, 0]

def k0_chk654 (v997 : BitVec 32) : Prop :=
  (∀ a, (k0_off1596 v997) a + S1x64.size a ≤ S1000000x64.size a)
instance k0_chk654.dec : ∀ (v997 : BitVec 32), Decidable (k0_chk654 v997) := fun v997 => decidable_of_iff' _ (Iff.of_eq (k0_chk654.eq_1 v997))
theorem k0_off1596_inb : ∀ (v997 : BitVec 32) (k0_hw654 : k0_chk654 v997), ∀ a, (k0_off1596 v997) a + S1x64.size a ≤ S1000000x64.size a := fun v997 k0_hw654 => k0_hw654

def k0_off1597 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_556 : BitVec 32 := 16#32
  let v936 : BitVec 32 := Scalar.muli arg13 c16_i32_556
  let c12_i32 : BitVec 32 := 12#32
  let v937 : BitVec 32 := Scalar.addi v936 c12_i32
  let c5_i32_585 : BitVec 32 := 5#32
  let v998 : BitVec 32 := Scalar.muli v937 c5_i32_585
  let c4_i32_586 : BitVec 32 := 4#32
  let v999 : BitVec 32 := Scalar.addi v998 c4_i32_586
  let c0_i32_589 : BitVec 32 := 0#32
  ![v999.toNat, 0]
def k0_off1598 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_591 : BitVec 32 := 16#32
  let v1008 : BitVec 32 := Scalar.muli arg13 c16_i32_591
  let c13_i32 : BitVec 32 := 13#32
  let v1009 : BitVec 32 := Scalar.addi v1008 c13_i32
  let c0_i32_592 : BitVec 32 := 0#32
  ![v1009.toNat, 0]
def k0_off1599 (v1011 : BitVec 32) : Fin 2 → Nat :=
  let c0_i32_593 : BitVec 32 := 0#32
  ![v1011.toNat, 0]

def k0_chk655 (v1011 : BitVec 32) : Prop :=
  (∀ a, (k0_off1599 v1011) a + S1x64.size a ≤ S1000000x64.size a)
instance k0_chk655.dec : ∀ (v1011 : BitVec 32), Decidable (k0_chk655 v1011) := fun v1011 => decidable_of_iff' _ (Iff.of_eq (k0_chk655.eq_1 v1011))
theorem k0_off1599_inb : ∀ (v1011 : BitVec 32) (k0_hw655 : k0_chk655 v1011), ∀ a, (k0_off1599 v1011) a + S1x64.size a ≤ S1000000x64.size a := fun v1011 k0_hw655 => k0_hw655

def k0_off1600 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_591 : BitVec 32 := 16#32
  let v1008 : BitVec 32 := Scalar.muli arg13 c16_i32_591
  let c13_i32 : BitVec 32 := 13#32
  let v1009 : BitVec 32 := Scalar.addi v1008 c13_i32
  let c0_i32_594 : BitVec 32 := 0#32
  ![v1009.toNat, 0]
def k0_off1601 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_591 : BitVec 32 := 16#32
  let v1008 : BitVec 32 := Scalar.muli arg13 c16_i32_591
  let c13_i32 : BitVec 32 := 13#32
  let v1009 : BitVec 32 := Scalar.addi v1008 c13_i32
  let c5_i32_596 : BitVec 32 := 5#32
  let v1022 : BitVec 32 := Scalar.muli v1009 c5_i32_596
  let c0_i32_597 : BitVec 32 := 0#32
  let v1023 : BitVec 32 := Scalar.addi v1022 c0_i32_597
  let c0_i32_598 : BitVec 32 := 0#32
  ![v1023.toNat, 0]
def k0_off1602 (v1021 : BitVec 32) : Fin 2 → Nat :=
  let c0_i32_599 : BitVec 32 := 0#32
  ![v1021.toNat, 0]

def k0_chk656 (v1021 : BitVec 32) : Prop :=
  (∀ a, (k0_off1602 v1021) a + S1x64.size a ≤ S1000000x64.size a)
instance k0_chk656.dec : ∀ (v1021 : BitVec 32), Decidable (k0_chk656 v1021) := fun v1021 => decidable_of_iff' _ (Iff.of_eq (k0_chk656.eq_1 v1021))
theorem k0_off1602_inb : ∀ (v1021 : BitVec 32) (k0_hw656 : k0_chk656 v1021), ∀ a, (k0_off1602 v1021) a + S1x64.size a ≤ S1000000x64.size a := fun v1021 k0_hw656 => k0_hw656

def k0_off1603 (k0_t19 : Fin k0_t19_loop.trips) (c0_i32_597 : BitVec 32) : Fin 2 → Nat :=
  let c0_i32_89 : BitVec 32 := 0#32
  let c1_i32_91 : BitVec 32 := 1#32
  let arg13 : BitVec 32 := Scf.iv c0_i32_89 c1_i32_91 k0_t19
  let c16_i32_591 : BitVec 32 := 16#32
  let v1008 : BitVec 32 := Scalar.muli arg13 c16_i32_591
  let c13_i32 : BitVec 32 := 13#32
  let v1009 : BitVec 32 := Scalar.addi v1008 c13_i32
  let c5_i32_596 : BitVec 32 := 5#32
  let v1022 : BitVec 32 := Scalar.muli v1009 c5_i32_596
  let v1023 : BitVec 32 := Scalar.addi v1022 c0_i32_597
  let c0_i32_600 : BitVec 32 := 0#32
  ![v1023.toNat, 0]
def k0_off1604 (v1033 : BitVec 32) : Fin 2 → Nat :=
  let c0_i32_605 : BitVec 32 := 0#32
  ![v1033.toNat, 0]

def k0_chk657 (v1033 : BitVec 32) : Prop :=
  (∀ a, (k0_off1604 v1033) a + S1x64.size a ≤ S1000000x64.size a)
instance k0_chk657.dec : ∀ (v1033 : BitVec 32), Decidable (k0_chk657 v1033) := fun v1033 => decidable_of_iff' _ (Iff.of_eq (k0_chk657.eq_1 v1033))
theorem k0_off1604_inb : ∀ (v1033 : BitVec 32) (k0_hw657 : k0_chk657 v1033), ∀ a, (k0_off1604 v1033) a + S1x64.size a ≤ S1000000x64.size a := fun v1033 k0_hw657 => k0_hw657

def k0_off1605 (k0_t19 : Fin k0_t19_loop.trips) (c1_i32_603 : BitVec 32) : Fin 2 → Nat :=
  let c0_i32_89 : BitVec 32 := 0#32
  let c1_i32_91 : BitVec 32 := 1#32
  let arg13 : BitVec 32 := Scf.iv c0_i32_89 c1_i32_91 k0_t19
  let c16_i32_591 : BitVec 32 := 16#32
  let v1008 : BitVec 32 := Scalar.muli arg13 c16_i32_591
  let c13_i32 : BitVec 32 := 13#32
  let v1009 : BitVec 32 := Scalar.addi v1008 c13_i32
  let c5_i32_602 : BitVec 32 := 5#32
  let v1034 : BitVec 32 := Scalar.muli v1009 c5_i32_602
  let v1035 : BitVec 32 := Scalar.addi v1034 c1_i32_603
  let c0_i32_606 : BitVec 32 := 0#32
  ![v1035.toNat, 0]
def k0_off1606 (v1045 : BitVec 32) : Fin 2 → Nat :=
  let c0_i32_611 : BitVec 32 := 0#32
  ![v1045.toNat, 0]

def k0_chk658 (v1045 : BitVec 32) : Prop :=
  (∀ a, (k0_off1606 v1045) a + S1x64.size a ≤ S1000000x64.size a)
instance k0_chk658.dec : ∀ (v1045 : BitVec 32), Decidable (k0_chk658 v1045) := fun v1045 => decidable_of_iff' _ (Iff.of_eq (k0_chk658.eq_1 v1045))
theorem k0_off1606_inb : ∀ (v1045 : BitVec 32) (k0_hw658 : k0_chk658 v1045), ∀ a, (k0_off1606 v1045) a + S1x64.size a ≤ S1000000x64.size a := fun v1045 k0_hw658 => k0_hw658

def k0_off1607 (k0_t19 : Fin k0_t19_loop.trips) (c2_i32_609 : BitVec 32) : Fin 2 → Nat :=
  let c0_i32_89 : BitVec 32 := 0#32
  let c1_i32_91 : BitVec 32 := 1#32
  let arg13 : BitVec 32 := Scf.iv c0_i32_89 c1_i32_91 k0_t19
  let c16_i32_591 : BitVec 32 := 16#32
  let v1008 : BitVec 32 := Scalar.muli arg13 c16_i32_591
  let c13_i32 : BitVec 32 := 13#32
  let v1009 : BitVec 32 := Scalar.addi v1008 c13_i32
  let c5_i32_608 : BitVec 32 := 5#32
  let v1046 : BitVec 32 := Scalar.muli v1009 c5_i32_608
  let v1047 : BitVec 32 := Scalar.addi v1046 c2_i32_609
  let c0_i32_612 : BitVec 32 := 0#32
  ![v1047.toNat, 0]
def k0_off1608 (v1057 : BitVec 32) : Fin 2 → Nat :=
  let c0_i32_617 : BitVec 32 := 0#32
  ![v1057.toNat, 0]

def k0_chk659 (v1057 : BitVec 32) : Prop :=
  (∀ a, (k0_off1608 v1057) a + S1x64.size a ≤ S1000000x64.size a)
instance k0_chk659.dec : ∀ (v1057 : BitVec 32), Decidable (k0_chk659 v1057) := fun v1057 => decidable_of_iff' _ (Iff.of_eq (k0_chk659.eq_1 v1057))
theorem k0_off1608_inb : ∀ (v1057 : BitVec 32) (k0_hw659 : k0_chk659 v1057), ∀ a, (k0_off1608 v1057) a + S1x64.size a ≤ S1000000x64.size a := fun v1057 k0_hw659 => k0_hw659

def k0_off1609 (k0_t19 : Fin k0_t19_loop.trips) (c3_i32_615 : BitVec 32) : Fin 2 → Nat :=
  let c0_i32_89 : BitVec 32 := 0#32
  let c1_i32_91 : BitVec 32 := 1#32
  let arg13 : BitVec 32 := Scf.iv c0_i32_89 c1_i32_91 k0_t19
  let c16_i32_591 : BitVec 32 := 16#32
  let v1008 : BitVec 32 := Scalar.muli arg13 c16_i32_591
  let c13_i32 : BitVec 32 := 13#32
  let v1009 : BitVec 32 := Scalar.addi v1008 c13_i32
  let c5_i32_614 : BitVec 32 := 5#32
  let v1058 : BitVec 32 := Scalar.muli v1009 c5_i32_614
  let v1059 : BitVec 32 := Scalar.addi v1058 c3_i32_615
  let c0_i32_618 : BitVec 32 := 0#32
  ![v1059.toNat, 0]
def k0_off1610 (v1069 : BitVec 32) : Fin 2 → Nat :=
  let c0_i32_623 : BitVec 32 := 0#32
  ![v1069.toNat, 0]

def k0_chk660 (v1069 : BitVec 32) : Prop :=
  (∀ a, (k0_off1610 v1069) a + S1x64.size a ≤ S1000000x64.size a)
instance k0_chk660.dec : ∀ (v1069 : BitVec 32), Decidable (k0_chk660 v1069) := fun v1069 => decidable_of_iff' _ (Iff.of_eq (k0_chk660.eq_1 v1069))
theorem k0_off1610_inb : ∀ (v1069 : BitVec 32) (k0_hw660 : k0_chk660 v1069), ∀ a, (k0_off1610 v1069) a + S1x64.size a ≤ S1000000x64.size a := fun v1069 k0_hw660 => k0_hw660

def k0_off1611 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_591 : BitVec 32 := 16#32
  let v1008 : BitVec 32 := Scalar.muli arg13 c16_i32_591
  let c13_i32 : BitVec 32 := 13#32
  let v1009 : BitVec 32 := Scalar.addi v1008 c13_i32
  let c5_i32_620 : BitVec 32 := 5#32
  let v1070 : BitVec 32 := Scalar.muli v1009 c5_i32_620
  let c4_i32_621 : BitVec 32 := 4#32
  let v1071 : BitVec 32 := Scalar.addi v1070 c4_i32_621
  let c0_i32_624 : BitVec 32 := 0#32
  ![v1071.toNat, 0]
def k0_off1612 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_626 : BitVec 32 := 16#32
  let v1080 : BitVec 32 := Scalar.muli arg13 c16_i32_626
  let c14_i32 : BitVec 32 := 14#32
  let v1081 : BitVec 32 := Scalar.addi v1080 c14_i32
  let c0_i32_627 : BitVec 32 := 0#32
  ![v1081.toNat, 0]
def k0_off1613 (v1083 : BitVec 32) : Fin 2 → Nat :=
  let c0_i32_628 : BitVec 32 := 0#32
  ![v1083.toNat, 0]

def k0_chk661 (v1083 : BitVec 32) : Prop :=
  (∀ a, (k0_off1613 v1083) a + S1x64.size a ≤ S1000000x64.size a)
instance k0_chk661.dec : ∀ (v1083 : BitVec 32), Decidable (k0_chk661 v1083) := fun v1083 => decidable_of_iff' _ (Iff.of_eq (k0_chk661.eq_1 v1083))
theorem k0_off1613_inb : ∀ (v1083 : BitVec 32) (k0_hw661 : k0_chk661 v1083), ∀ a, (k0_off1613 v1083) a + S1x64.size a ≤ S1000000x64.size a := fun v1083 k0_hw661 => k0_hw661

def k0_off1614 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_626 : BitVec 32 := 16#32
  let v1080 : BitVec 32 := Scalar.muli arg13 c16_i32_626
  let c14_i32 : BitVec 32 := 14#32
  let v1081 : BitVec 32 := Scalar.addi v1080 c14_i32
  let c0_i32_629 : BitVec 32 := 0#32
  ![v1081.toNat, 0]
def k0_off1615 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_626 : BitVec 32 := 16#32
  let v1080 : BitVec 32 := Scalar.muli arg13 c16_i32_626
  let c14_i32 : BitVec 32 := 14#32
  let v1081 : BitVec 32 := Scalar.addi v1080 c14_i32
  let c5_i32_631 : BitVec 32 := 5#32
  let v1094 : BitVec 32 := Scalar.muli v1081 c5_i32_631
  let c0_i32_632 : BitVec 32 := 0#32
  let v1095 : BitVec 32 := Scalar.addi v1094 c0_i32_632
  let c0_i32_633 : BitVec 32 := 0#32
  ![v1095.toNat, 0]
def k0_off1616 (v1093 : BitVec 32) : Fin 2 → Nat :=
  let c0_i32_634 : BitVec 32 := 0#32
  ![v1093.toNat, 0]

def k0_chk662 (v1093 : BitVec 32) : Prop :=
  (∀ a, (k0_off1616 v1093) a + S1x64.size a ≤ S1000000x64.size a)
instance k0_chk662.dec : ∀ (v1093 : BitVec 32), Decidable (k0_chk662 v1093) := fun v1093 => decidable_of_iff' _ (Iff.of_eq (k0_chk662.eq_1 v1093))
theorem k0_off1616_inb : ∀ (v1093 : BitVec 32) (k0_hw662 : k0_chk662 v1093), ∀ a, (k0_off1616 v1093) a + S1x64.size a ≤ S1000000x64.size a := fun v1093 k0_hw662 => k0_hw662

def k0_off1617 (k0_t19 : Fin k0_t19_loop.trips) (c0_i32_632 : BitVec 32) : Fin 2 → Nat :=
  let c0_i32_89 : BitVec 32 := 0#32
  let c1_i32_91 : BitVec 32 := 1#32
  let arg13 : BitVec 32 := Scf.iv c0_i32_89 c1_i32_91 k0_t19
  let c16_i32_626 : BitVec 32 := 16#32
  let v1080 : BitVec 32 := Scalar.muli arg13 c16_i32_626
  let c14_i32 : BitVec 32 := 14#32
  let v1081 : BitVec 32 := Scalar.addi v1080 c14_i32
  let c5_i32_631 : BitVec 32 := 5#32
  let v1094 : BitVec 32 := Scalar.muli v1081 c5_i32_631
  let v1095 : BitVec 32 := Scalar.addi v1094 c0_i32_632
  let c0_i32_635 : BitVec 32 := 0#32
  ![v1095.toNat, 0]
def k0_off1618 (v1105 : BitVec 32) : Fin 2 → Nat :=
  let c0_i32_640 : BitVec 32 := 0#32
  ![v1105.toNat, 0]

def k0_chk663 (v1105 : BitVec 32) : Prop :=
  (∀ a, (k0_off1618 v1105) a + S1x64.size a ≤ S1000000x64.size a)
instance k0_chk663.dec : ∀ (v1105 : BitVec 32), Decidable (k0_chk663 v1105) := fun v1105 => decidable_of_iff' _ (Iff.of_eq (k0_chk663.eq_1 v1105))
theorem k0_off1618_inb : ∀ (v1105 : BitVec 32) (k0_hw663 : k0_chk663 v1105), ∀ a, (k0_off1618 v1105) a + S1x64.size a ≤ S1000000x64.size a := fun v1105 k0_hw663 => k0_hw663

def k0_off1619 (k0_t19 : Fin k0_t19_loop.trips) (c1_i32_638 : BitVec 32) : Fin 2 → Nat :=
  let c0_i32_89 : BitVec 32 := 0#32
  let c1_i32_91 : BitVec 32 := 1#32
  let arg13 : BitVec 32 := Scf.iv c0_i32_89 c1_i32_91 k0_t19
  let c16_i32_626 : BitVec 32 := 16#32
  let v1080 : BitVec 32 := Scalar.muli arg13 c16_i32_626
  let c14_i32 : BitVec 32 := 14#32
  let v1081 : BitVec 32 := Scalar.addi v1080 c14_i32
  let c5_i32_637 : BitVec 32 := 5#32
  let v1106 : BitVec 32 := Scalar.muli v1081 c5_i32_637
  let v1107 : BitVec 32 := Scalar.addi v1106 c1_i32_638
  let c0_i32_641 : BitVec 32 := 0#32
  ![v1107.toNat, 0]
def k0_off1620 (v1117 : BitVec 32) : Fin 2 → Nat :=
  let c0_i32_646 : BitVec 32 := 0#32
  ![v1117.toNat, 0]

def k0_chk664 (v1117 : BitVec 32) : Prop :=
  (∀ a, (k0_off1620 v1117) a + S1x64.size a ≤ S1000000x64.size a)
instance k0_chk664.dec : ∀ (v1117 : BitVec 32), Decidable (k0_chk664 v1117) := fun v1117 => decidable_of_iff' _ (Iff.of_eq (k0_chk664.eq_1 v1117))
theorem k0_off1620_inb : ∀ (v1117 : BitVec 32) (k0_hw664 : k0_chk664 v1117), ∀ a, (k0_off1620 v1117) a + S1x64.size a ≤ S1000000x64.size a := fun v1117 k0_hw664 => k0_hw664

def k0_off1621 (k0_t19 : Fin k0_t19_loop.trips) (c2_i32_644 : BitVec 32) : Fin 2 → Nat :=
  let c0_i32_89 : BitVec 32 := 0#32
  let c1_i32_91 : BitVec 32 := 1#32
  let arg13 : BitVec 32 := Scf.iv c0_i32_89 c1_i32_91 k0_t19
  let c16_i32_626 : BitVec 32 := 16#32
  let v1080 : BitVec 32 := Scalar.muli arg13 c16_i32_626
  let c14_i32 : BitVec 32 := 14#32
  let v1081 : BitVec 32 := Scalar.addi v1080 c14_i32
  let c5_i32_643 : BitVec 32 := 5#32
  let v1118 : BitVec 32 := Scalar.muli v1081 c5_i32_643
  let v1119 : BitVec 32 := Scalar.addi v1118 c2_i32_644
  let c0_i32_647 : BitVec 32 := 0#32
  ![v1119.toNat, 0]
def k0_off1622 (v1129 : BitVec 32) : Fin 2 → Nat :=
  let c0_i32_652 : BitVec 32 := 0#32
  ![v1129.toNat, 0]

def k0_chk665 (v1129 : BitVec 32) : Prop :=
  (∀ a, (k0_off1622 v1129) a + S1x64.size a ≤ S1000000x64.size a)
instance k0_chk665.dec : ∀ (v1129 : BitVec 32), Decidable (k0_chk665 v1129) := fun v1129 => decidable_of_iff' _ (Iff.of_eq (k0_chk665.eq_1 v1129))
theorem k0_off1622_inb : ∀ (v1129 : BitVec 32) (k0_hw665 : k0_chk665 v1129), ∀ a, (k0_off1622 v1129) a + S1x64.size a ≤ S1000000x64.size a := fun v1129 k0_hw665 => k0_hw665

def k0_off1623 (k0_t19 : Fin k0_t19_loop.trips) (c3_i32_650 : BitVec 32) : Fin 2 → Nat :=
  let c0_i32_89 : BitVec 32 := 0#32
  let c1_i32_91 : BitVec 32 := 1#32
  let arg13 : BitVec 32 := Scf.iv c0_i32_89 c1_i32_91 k0_t19
  let c16_i32_626 : BitVec 32 := 16#32
  let v1080 : BitVec 32 := Scalar.muli arg13 c16_i32_626
  let c14_i32 : BitVec 32 := 14#32
  let v1081 : BitVec 32 := Scalar.addi v1080 c14_i32
  let c5_i32_649 : BitVec 32 := 5#32
  let v1130 : BitVec 32 := Scalar.muli v1081 c5_i32_649
  let v1131 : BitVec 32 := Scalar.addi v1130 c3_i32_650
  let c0_i32_653 : BitVec 32 := 0#32
  ![v1131.toNat, 0]
def k0_off1624 (v1141 : BitVec 32) : Fin 2 → Nat :=
  let c0_i32_658 : BitVec 32 := 0#32
  ![v1141.toNat, 0]

def k0_chk666 (v1141 : BitVec 32) : Prop :=
  (∀ a, (k0_off1624 v1141) a + S1x64.size a ≤ S1000000x64.size a)
instance k0_chk666.dec : ∀ (v1141 : BitVec 32), Decidable (k0_chk666 v1141) := fun v1141 => decidable_of_iff' _ (Iff.of_eq (k0_chk666.eq_1 v1141))
theorem k0_off1624_inb : ∀ (v1141 : BitVec 32) (k0_hw666 : k0_chk666 v1141), ∀ a, (k0_off1624 v1141) a + S1x64.size a ≤ S1000000x64.size a := fun v1141 k0_hw666 => k0_hw666

def k0_off1625 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_626 : BitVec 32 := 16#32
  let v1080 : BitVec 32 := Scalar.muli arg13 c16_i32_626
  let c14_i32 : BitVec 32 := 14#32
  let v1081 : BitVec 32 := Scalar.addi v1080 c14_i32
  let c5_i32_655 : BitVec 32 := 5#32
  let v1142 : BitVec 32 := Scalar.muli v1081 c5_i32_655
  let c4_i32_656 : BitVec 32 := 4#32
  let v1143 : BitVec 32 := Scalar.addi v1142 c4_i32_656
  let c0_i32_659 : BitVec 32 := 0#32
  ![v1143.toNat, 0]
def k0_off1626 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_661 : BitVec 32 := 16#32
  let v1152 : BitVec 32 := Scalar.muli arg13 c16_i32_661
  let c15_i32 : BitVec 32 := 15#32
  let v1153 : BitVec 32 := Scalar.addi v1152 c15_i32
  let c0_i32_662 : BitVec 32 := 0#32
  ![v1153.toNat, 0]
def k0_off1627 (v1155 : BitVec 32) : Fin 2 → Nat :=
  let c0_i32_663 : BitVec 32 := 0#32
  ![v1155.toNat, 0]

def k0_chk667 (v1155 : BitVec 32) : Prop :=
  (∀ a, (k0_off1627 v1155) a + S1x64.size a ≤ S1000000x64.size a)
instance k0_chk667.dec : ∀ (v1155 : BitVec 32), Decidable (k0_chk667 v1155) := fun v1155 => decidable_of_iff' _ (Iff.of_eq (k0_chk667.eq_1 v1155))
theorem k0_off1627_inb : ∀ (v1155 : BitVec 32) (k0_hw667 : k0_chk667 v1155), ∀ a, (k0_off1627 v1155) a + S1x64.size a ≤ S1000000x64.size a := fun v1155 k0_hw667 => k0_hw667

def k0_off1628 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_661 : BitVec 32 := 16#32
  let v1152 : BitVec 32 := Scalar.muli arg13 c16_i32_661
  let c15_i32 : BitVec 32 := 15#32
  let v1153 : BitVec 32 := Scalar.addi v1152 c15_i32
  let c0_i32_664 : BitVec 32 := 0#32
  ![v1153.toNat, 0]
def k0_off1629 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_661 : BitVec 32 := 16#32
  let v1152 : BitVec 32 := Scalar.muli arg13 c16_i32_661
  let c15_i32 : BitVec 32 := 15#32
  let v1153 : BitVec 32 := Scalar.addi v1152 c15_i32
  let c5_i32_666 : BitVec 32 := 5#32
  let v1166 : BitVec 32 := Scalar.muli v1153 c5_i32_666
  let c0_i32_667 : BitVec 32 := 0#32
  let v1167 : BitVec 32 := Scalar.addi v1166 c0_i32_667
  let c0_i32_668 : BitVec 32 := 0#32
  ![v1167.toNat, 0]
def k0_off1630 (v1165 : BitVec 32) : Fin 2 → Nat :=
  let c0_i32_669 : BitVec 32 := 0#32
  ![v1165.toNat, 0]

def k0_chk668 (v1165 : BitVec 32) : Prop :=
  (∀ a, (k0_off1630 v1165) a + S1x64.size a ≤ S1000000x64.size a)
instance k0_chk668.dec : ∀ (v1165 : BitVec 32), Decidable (k0_chk668 v1165) := fun v1165 => decidable_of_iff' _ (Iff.of_eq (k0_chk668.eq_1 v1165))
theorem k0_off1630_inb : ∀ (v1165 : BitVec 32) (k0_hw668 : k0_chk668 v1165), ∀ a, (k0_off1630 v1165) a + S1x64.size a ≤ S1000000x64.size a := fun v1165 k0_hw668 => k0_hw668

def k0_off1631 (k0_t19 : Fin k0_t19_loop.trips) (c0_i32_667 : BitVec 32) : Fin 2 → Nat :=
  let c0_i32_89 : BitVec 32 := 0#32
  let c1_i32_91 : BitVec 32 := 1#32
  let arg13 : BitVec 32 := Scf.iv c0_i32_89 c1_i32_91 k0_t19
  let c16_i32_661 : BitVec 32 := 16#32
  let v1152 : BitVec 32 := Scalar.muli arg13 c16_i32_661
  let c15_i32 : BitVec 32 := 15#32
  let v1153 : BitVec 32 := Scalar.addi v1152 c15_i32
  let c5_i32_666 : BitVec 32 := 5#32
  let v1166 : BitVec 32 := Scalar.muli v1153 c5_i32_666
  let v1167 : BitVec 32 := Scalar.addi v1166 c0_i32_667
  let c0_i32_670 : BitVec 32 := 0#32
  ![v1167.toNat, 0]
def k0_off1632 (v1177 : BitVec 32) : Fin 2 → Nat :=
  let c0_i32_675 : BitVec 32 := 0#32
  ![v1177.toNat, 0]

def k0_chk669 (v1177 : BitVec 32) : Prop :=
  (∀ a, (k0_off1632 v1177) a + S1x64.size a ≤ S1000000x64.size a)
instance k0_chk669.dec : ∀ (v1177 : BitVec 32), Decidable (k0_chk669 v1177) := fun v1177 => decidable_of_iff' _ (Iff.of_eq (k0_chk669.eq_1 v1177))
theorem k0_off1632_inb : ∀ (v1177 : BitVec 32) (k0_hw669 : k0_chk669 v1177), ∀ a, (k0_off1632 v1177) a + S1x64.size a ≤ S1000000x64.size a := fun v1177 k0_hw669 => k0_hw669

def k0_off1633 (k0_t19 : Fin k0_t19_loop.trips) (c1_i32_673 : BitVec 32) : Fin 2 → Nat :=
  let c0_i32_89 : BitVec 32 := 0#32
  let c1_i32_91 : BitVec 32 := 1#32
  let arg13 : BitVec 32 := Scf.iv c0_i32_89 c1_i32_91 k0_t19
  let c16_i32_661 : BitVec 32 := 16#32
  let v1152 : BitVec 32 := Scalar.muli arg13 c16_i32_661
  let c15_i32 : BitVec 32 := 15#32
  let v1153 : BitVec 32 := Scalar.addi v1152 c15_i32
  let c5_i32_672 : BitVec 32 := 5#32
  let v1178 : BitVec 32 := Scalar.muli v1153 c5_i32_672
  let v1179 : BitVec 32 := Scalar.addi v1178 c1_i32_673
  let c0_i32_676 : BitVec 32 := 0#32
  ![v1179.toNat, 0]
def k0_off1634 (v1189 : BitVec 32) : Fin 2 → Nat :=
  let c0_i32_681 : BitVec 32 := 0#32
  ![v1189.toNat, 0]

def k0_chk670 (v1189 : BitVec 32) : Prop :=
  (∀ a, (k0_off1634 v1189) a + S1x64.size a ≤ S1000000x64.size a)
instance k0_chk670.dec : ∀ (v1189 : BitVec 32), Decidable (k0_chk670 v1189) := fun v1189 => decidable_of_iff' _ (Iff.of_eq (k0_chk670.eq_1 v1189))
theorem k0_off1634_inb : ∀ (v1189 : BitVec 32) (k0_hw670 : k0_chk670 v1189), ∀ a, (k0_off1634 v1189) a + S1x64.size a ≤ S1000000x64.size a := fun v1189 k0_hw670 => k0_hw670

def k0_off1635 (k0_t19 : Fin k0_t19_loop.trips) (c2_i32_679 : BitVec 32) : Fin 2 → Nat :=
  let c0_i32_89 : BitVec 32 := 0#32
  let c1_i32_91 : BitVec 32 := 1#32
  let arg13 : BitVec 32 := Scf.iv c0_i32_89 c1_i32_91 k0_t19
  let c16_i32_661 : BitVec 32 := 16#32
  let v1152 : BitVec 32 := Scalar.muli arg13 c16_i32_661
  let c15_i32 : BitVec 32 := 15#32
  let v1153 : BitVec 32 := Scalar.addi v1152 c15_i32
  let c5_i32_678 : BitVec 32 := 5#32
  let v1190 : BitVec 32 := Scalar.muli v1153 c5_i32_678
  let v1191 : BitVec 32 := Scalar.addi v1190 c2_i32_679
  let c0_i32_682 : BitVec 32 := 0#32
  ![v1191.toNat, 0]
def k0_off1636 (v1201 : BitVec 32) : Fin 2 → Nat :=
  let c0_i32_687 : BitVec 32 := 0#32
  ![v1201.toNat, 0]

def k0_chk671 (v1201 : BitVec 32) : Prop :=
  (∀ a, (k0_off1636 v1201) a + S1x64.size a ≤ S1000000x64.size a)
instance k0_chk671.dec : ∀ (v1201 : BitVec 32), Decidable (k0_chk671 v1201) := fun v1201 => decidable_of_iff' _ (Iff.of_eq (k0_chk671.eq_1 v1201))
theorem k0_off1636_inb : ∀ (v1201 : BitVec 32) (k0_hw671 : k0_chk671 v1201), ∀ a, (k0_off1636 v1201) a + S1x64.size a ≤ S1000000x64.size a := fun v1201 k0_hw671 => k0_hw671

def k0_off1637 (k0_t19 : Fin k0_t19_loop.trips) (c3_i32_685 : BitVec 32) : Fin 2 → Nat :=
  let c0_i32_89 : BitVec 32 := 0#32
  let c1_i32_91 : BitVec 32 := 1#32
  let arg13 : BitVec 32 := Scf.iv c0_i32_89 c1_i32_91 k0_t19
  let c16_i32_661 : BitVec 32 := 16#32
  let v1152 : BitVec 32 := Scalar.muli arg13 c16_i32_661
  let c15_i32 : BitVec 32 := 15#32
  let v1153 : BitVec 32 := Scalar.addi v1152 c15_i32
  let c5_i32_684 : BitVec 32 := 5#32
  let v1202 : BitVec 32 := Scalar.muli v1153 c5_i32_684
  let v1203 : BitVec 32 := Scalar.addi v1202 c3_i32_685
  let c0_i32_688 : BitVec 32 := 0#32
  ![v1203.toNat, 0]
def k0_off1638 (v1213 : BitVec 32) : Fin 2 → Nat :=
  let c0_i32_693 : BitVec 32 := 0#32
  ![v1213.toNat, 0]

def k0_chk672 (v1213 : BitVec 32) : Prop :=
  (∀ a, (k0_off1638 v1213) a + S1x64.size a ≤ S1000000x64.size a)
instance k0_chk672.dec : ∀ (v1213 : BitVec 32), Decidable (k0_chk672 v1213) := fun v1213 => decidable_of_iff' _ (Iff.of_eq (k0_chk672.eq_1 v1213))
theorem k0_off1638_inb : ∀ (v1213 : BitVec 32) (k0_hw672 : k0_chk672 v1213), ∀ a, (k0_off1638 v1213) a + S1x64.size a ≤ S1000000x64.size a := fun v1213 k0_hw672 => k0_hw672

def k0_off1639 (k0_t19 : Fin k0_t19_loop.trips) : Fin 2 → Nat :=
  let c0_i32_89 : BitVec 32 := 0#32
  let c1_i32_91 : BitVec 32 := 1#32
  let arg13 : BitVec 32 := Scf.iv c0_i32_89 c1_i32_91 k0_t19
  let c16_i32_661 : BitVec 32 := 16#32
  let v1152 : BitVec 32 := Scalar.muli arg13 c16_i32_661
  let c15_i32 : BitVec 32 := 15#32
  let v1153 : BitVec 32 := Scalar.addi v1152 c15_i32
  let c5_i32_690 : BitVec 32 := 5#32
  let v1214 : BitVec 32 := Scalar.muli v1153 c5_i32_690
  let c4_i32_691 : BitVec 32 := 4#32
  let v1215 : BitVec 32 := Scalar.addi v1214 c4_i32_691
  let c0_i32_694 : BitVec 32 := 0#32
  ![v1215.toNat, 0]
@[reducible] def k0_t20_loop : Scf.Loop 32 :=
  let c0_i32_94 : BitVec 32 := 0#32
  let c64_i32_95 : BitVec 32 := 64#32
  let v29 : BitVec 32 := Scalar.addi c0_i32_94 c64_i32_95
  let c1_i32_96 : BitVec 32 := 1#32
  ⟨c0_i32_94, v29, c1_i32_96⟩
@[reducible] def k0_t21_loop : Scf.Loop 32 :=
  let c0_i32_99 : BitVec 32 := 0#32
  let c64_i32_100 : BitVec 32 := 64#32
  let v30 : BitVec 32 := Scalar.addi c0_i32_99 c64_i32_100
  let c1_i32_101 : BitVec 32 := 1#32
  ⟨c0_i32_99, v30, c1_i32_101⟩
def k0_off1640 (k0_t21 : Fin k0_t21_loop.trips) : Fin 2 → Nat :=
  let c0_i32_99 : BitVec 32 := 0#32
  let c1_i32_101 : BitVec 32 := 1#32
  let arg13 : BitVec 32 := Scf.iv c0_i32_99 c1_i32_101 k0_t21
  let v37 : Index := Scalar.indexCast arg13
  let c0 : Index := 0#32
  ![v37.toNat, 0]
def k0_off1641 (k0_t21 : Fin k0_t21_loop.trips) : Fin 2 → Nat :=
  let c0_i32_99 : BitVec 32 := 0#32
  let c1_i32_101 : BitVec 32 := 1#32
  let arg13 : BitVec 32 := Scf.iv c0_i32_99 c1_i32_101 k0_t21
  let v40 : Index := Scalar.indexCast arg13
  let c16 : Index := 16#32
  ![v40.toNat, 16]
def k0_off1642 (k0_t21 : Fin k0_t21_loop.trips) : Fin 2 → Nat :=
  let c0_i32_99 : BitVec 32 := 0#32
  let c1_i32_101 : BitVec 32 := 1#32
  let arg13 : BitVec 32 := Scf.iv c0_i32_99 c1_i32_101 k0_t21
  let v43 : Index := Scalar.indexCast arg13
  let c32 : Index := 32#32
  ![v43.toNat, 32]
def k0_off1643 (k0_t21 : Fin k0_t21_loop.trips) : Fin 2 → Nat :=
  let c0_i32_99 : BitVec 32 := 0#32
  let c1_i32_101 : BitVec 32 := 1#32
  let arg13 : BitVec 32 := Scf.iv c0_i32_99 c1_i32_101 k0_t21
  let v46 : Index := Scalar.indexCast arg13
  let c48 : Index := 48#32
  ![v46.toNat, 48]
def k0_off1644 (k0_t21 : Fin k0_t21_loop.trips) (c0_i32_121 : BitVec 32) : Fin 2 → Nat :=
  let c0_i32_99 : BitVec 32 := 0#32
  let c1_i32_101 : BitVec 32 := 1#32
  let arg13 : BitVec 32 := Scf.iv c0_i32_99 c1_i32_101 k0_t21
  let c5_i32_120 : BitVec 32 := 5#32
  let v51 : BitVec 32 := Scalar.muli arg13 c5_i32_120
  let v52 : BitVec 32 := Scalar.addi v51 c0_i32_121
  let v53 : Index := Scalar.indexCast v52
  let c0_122 : Index := 0#32
  ![v53.toNat, 0]
def k0_off1645 (k0_t21 : Fin k0_t21_loop.trips) (c0_i32_121 : BitVec 32) : Fin 2 → Nat :=
  let c0_i32_99 : BitVec 32 := 0#32
  let c1_i32_101 : BitVec 32 := 1#32
  let arg13 : BitVec 32 := Scf.iv c0_i32_99 c1_i32_101 k0_t21
  let c5_i32_120 : BitVec 32 := 5#32
  let v51 : BitVec 32 := Scalar.muli arg13 c5_i32_120
  let v52 : BitVec 32 := Scalar.addi v51 c0_i32_121
  let v57 : Index := Scalar.indexCast v52
  let c16_123 : Index := 16#32
  ![v57.toNat, 16]
def k0_off1646 (k0_t21 : Fin k0_t21_loop.trips) (c0_i32_121 : BitVec 32) : Fin 2 → Nat :=
  let c0_i32_99 : BitVec 32 := 0#32
  let c1_i32_101 : BitVec 32 := 1#32
  let arg13 : BitVec 32 := Scf.iv c0_i32_99 c1_i32_101 k0_t21
  let c5_i32_120 : BitVec 32 := 5#32
  let v51 : BitVec 32 := Scalar.muli arg13 c5_i32_120
  let v52 : BitVec 32 := Scalar.addi v51 c0_i32_121
  let v62 : Index := Scalar.indexCast v52
  let c32_124 : Index := 32#32
  ![v62.toNat, 32]
def k0_off1647 (k0_t21 : Fin k0_t21_loop.trips) (c0_i32_121 : BitVec 32) : Fin 2 → Nat :=
  let c0_i32_99 : BitVec 32 := 0#32
  let c1_i32_101 : BitVec 32 := 1#32
  let arg13 : BitVec 32 := Scf.iv c0_i32_99 c1_i32_101 k0_t21
  let c5_i32_120 : BitVec 32 := 5#32
  let v51 : BitVec 32 := Scalar.muli arg13 c5_i32_120
  let v52 : BitVec 32 := Scalar.addi v51 c0_i32_121
  let v67 : Index := Scalar.indexCast v52
  let c48_125 : Index := 48#32
  ![v67.toNat, 48]
def k0_off1648 (k0_t21 : Fin k0_t21_loop.trips) (c0_i32_126 : BitVec 32) : Fin 1 → Nat :=
  let c384_i32_118 : BitVec 32 := 384#32
  let c0_i32_99 : BitVec 32 := 0#32
  let c1_i32_101 : BitVec 32 := 1#32
  let arg13 : BitVec 32 := Scf.iv c0_i32_99 c1_i32_101 k0_t21
  let v49 : BitVec 32 := Scalar.addi c384_i32_118 arg13
  let c80_i32_119 : BitVec 32 := 80#32
  let v50 : BitVec 32 := Scalar.muli v49 c80_i32_119
  let v74 : BitVec 32 := Scalar.addi v50 c0_i32_126
  let v75 : Index := Scalar.indexCast v74
  ![v75.toNat]
@[reducible] def k0_t22_loop : Scf.Loop 32 :=
  let c0_i32_104 : BitVec 32 := 0#32
  let c4_i32_105 : BitVec 32 := 4#32
  let v32 : BitVec 32 := Scalar.addi c0_i32_104 c4_i32_105
  let c1_i32_106 : BitVec 32 := 1#32
  ⟨c0_i32_104, v32, c1_i32_106⟩
def k0_off1649 (k0_t22 : Fin k0_t22_loop.trips) : Fin 1 → Nat :=
  let c448_i32_118 : BitVec 32 := 448#32
  let c0_i32_104 : BitVec 32 := 0#32
  let c1_i32_106 : BitVec 32 := 1#32
  let arg13 : BitVec 32 := Scf.iv c0_i32_104 c1_i32_106 k0_t22
  let c16_i32 : BitVec 32 := 16#32
  let v37 : BitVec 32 := Scalar.muli arg13 c16_i32
  let v38 : BitVec 32 := Scalar.addi c448_i32_118 v37
  let v39 : Index := Scalar.indexCast v38
  ![v39.toNat]
def k0_off1650 (k0_t22 : Fin k0_t22_loop.trips) (c0_i32_120 : BitVec 32) : Fin 1 → Nat :=
  let c2240_i32 : BitVec 32 := 2240#32
  let c0_i32_104 : BitVec 32 := 0#32
  let c1_i32_106 : BitVec 32 := 1#32
  let arg13 : BitVec 32 := Scf.iv c0_i32_104 c1_i32_106 k0_t22
  let c80_i32_119 : BitVec 32 := 80#32
  let v42 : BitVec 32 := Scalar.muli arg13 c80_i32_119
  let v43 : BitVec 32 := Scalar.addi c2240_i32 v42
  let v44 : BitVec 32 := Scalar.addi v43 c0_i32_120
  let v45 : Index := Scalar.indexCast v44
  ![v45.toNat]
def k0_off1651 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_131 : BitVec 32 := 16#32
  let v72 : BitVec 32 := Scalar.muli arg13 c16_i32_131
  let c0_i32_132 : BitVec 32 := 0#32
  let v73 : BitVec 32 := Scalar.addi v72 c0_i32_132
  let c0_i32_133 : BitVec 32 := 0#32
  ![v73.toNat, 0]
def k0_off1652 (v75 : BitVec 32) : Fin 2 → Nat :=
  let c0_i32_134 : BitVec 32 := 0#32
  ![v75.toNat, 0]

def k0_chk673 (v75 : BitVec 32) : Prop :=
  (∀ a, (k0_off1652 v75) a + S1x64.size a ≤ S1000000x64.size a)
instance k0_chk673.dec : ∀ (v75 : BitVec 32), Decidable (k0_chk673 v75) := fun v75 => decidable_of_iff' _ (Iff.of_eq (k0_chk673.eq_1 v75))
theorem k0_off1652_inb : ∀ (v75 : BitVec 32) (k0_hw673 : k0_chk673 v75), ∀ a, (k0_off1652 v75) a + S1x64.size a ≤ S1000000x64.size a := fun v75 k0_hw673 => k0_hw673

def k0_off1653 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_131 : BitVec 32 := 16#32
  let v72 : BitVec 32 := Scalar.muli arg13 c16_i32_131
  let c0_i32_132 : BitVec 32 := 0#32
  let v73 : BitVec 32 := Scalar.addi v72 c0_i32_132
  let c0_i32_135 : BitVec 32 := 0#32
  ![v73.toNat, 0]
def k0_off1654 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_131 : BitVec 32 := 16#32
  let v72 : BitVec 32 := Scalar.muli arg13 c16_i32_131
  let c0_i32_132 : BitVec 32 := 0#32
  let v73 : BitVec 32 := Scalar.addi v72 c0_i32_132
  let c5_i32_137 : BitVec 32 := 5#32
  let v86 : BitVec 32 := Scalar.muli v73 c5_i32_137
  let c0_i32_138 : BitVec 32 := 0#32
  let v87 : BitVec 32 := Scalar.addi v86 c0_i32_138
  let c0_i32_139 : BitVec 32 := 0#32
  ![v87.toNat, 0]
def k0_off1655 (v85 : BitVec 32) : Fin 2 → Nat :=
  let c0_i32_140 : BitVec 32 := 0#32
  ![v85.toNat, 0]

def k0_chk674 (v85 : BitVec 32) : Prop :=
  (∀ a, (k0_off1655 v85) a + S1x64.size a ≤ S1000000x64.size a)
instance k0_chk674.dec : ∀ (v85 : BitVec 32), Decidable (k0_chk674 v85) := fun v85 => decidable_of_iff' _ (Iff.of_eq (k0_chk674.eq_1 v85))
theorem k0_off1655_inb : ∀ (v85 : BitVec 32) (k0_hw674 : k0_chk674 v85), ∀ a, (k0_off1655 v85) a + S1x64.size a ≤ S1000000x64.size a := fun v85 k0_hw674 => k0_hw674

def k0_off1656 (k0_t22 : Fin k0_t22_loop.trips) (c0_i32_138 : BitVec 32) : Fin 2 → Nat :=
  let c0_i32_104 : BitVec 32 := 0#32
  let c1_i32_106 : BitVec 32 := 1#32
  let arg13 : BitVec 32 := Scf.iv c0_i32_104 c1_i32_106 k0_t22
  let c16_i32_131 : BitVec 32 := 16#32
  let v72 : BitVec 32 := Scalar.muli arg13 c16_i32_131
  let c0_i32_132 : BitVec 32 := 0#32
  let v73 : BitVec 32 := Scalar.addi v72 c0_i32_132
  let c5_i32_137 : BitVec 32 := 5#32
  let v86 : BitVec 32 := Scalar.muli v73 c5_i32_137
  let v87 : BitVec 32 := Scalar.addi v86 c0_i32_138
  let c0_i32_141 : BitVec 32 := 0#32
  ![v87.toNat, 0]
def k0_off1657 (v97 : BitVec 32) : Fin 2 → Nat :=
  let c0_i32_146 : BitVec 32 := 0#32
  ![v97.toNat, 0]

def k0_chk675 (v97 : BitVec 32) : Prop :=
  (∀ a, (k0_off1657 v97) a + S1x64.size a ≤ S1000000x64.size a)
instance k0_chk675.dec : ∀ (v97 : BitVec 32), Decidable (k0_chk675 v97) := fun v97 => decidable_of_iff' _ (Iff.of_eq (k0_chk675.eq_1 v97))
theorem k0_off1657_inb : ∀ (v97 : BitVec 32) (k0_hw675 : k0_chk675 v97), ∀ a, (k0_off1657 v97) a + S1x64.size a ≤ S1000000x64.size a := fun v97 k0_hw675 => k0_hw675

def k0_off1658 (k0_t22 : Fin k0_t22_loop.trips) (c1_i32_144 : BitVec 32) : Fin 2 → Nat :=
  let c0_i32_104 : BitVec 32 := 0#32
  let c1_i32_106 : BitVec 32 := 1#32
  let arg13 : BitVec 32 := Scf.iv c0_i32_104 c1_i32_106 k0_t22
  let c16_i32_131 : BitVec 32 := 16#32
  let v72 : BitVec 32 := Scalar.muli arg13 c16_i32_131
  let c0_i32_132 : BitVec 32 := 0#32
  let v73 : BitVec 32 := Scalar.addi v72 c0_i32_132
  let c5_i32_143 : BitVec 32 := 5#32
  let v98 : BitVec 32 := Scalar.muli v73 c5_i32_143
  let v99 : BitVec 32 := Scalar.addi v98 c1_i32_144
  let c0_i32_147 : BitVec 32 := 0#32
  ![v99.toNat, 0]
def k0_off1659 (v109 : BitVec 32) : Fin 2 → Nat :=
  let c0_i32_152 : BitVec 32 := 0#32
  ![v109.toNat, 0]

def k0_chk676 (v109 : BitVec 32) : Prop :=
  (∀ a, (k0_off1659 v109) a + S1x64.size a ≤ S1000000x64.size a)
instance k0_chk676.dec : ∀ (v109 : BitVec 32), Decidable (k0_chk676 v109) := fun v109 => decidable_of_iff' _ (Iff.of_eq (k0_chk676.eq_1 v109))
theorem k0_off1659_inb : ∀ (v109 : BitVec 32) (k0_hw676 : k0_chk676 v109), ∀ a, (k0_off1659 v109) a + S1x64.size a ≤ S1000000x64.size a := fun v109 k0_hw676 => k0_hw676

def k0_off1660 (k0_t22 : Fin k0_t22_loop.trips) (c2_i32_150 : BitVec 32) : Fin 2 → Nat :=
  let c0_i32_104 : BitVec 32 := 0#32
  let c1_i32_106 : BitVec 32 := 1#32
  let arg13 : BitVec 32 := Scf.iv c0_i32_104 c1_i32_106 k0_t22
  let c16_i32_131 : BitVec 32 := 16#32
  let v72 : BitVec 32 := Scalar.muli arg13 c16_i32_131
  let c0_i32_132 : BitVec 32 := 0#32
  let v73 : BitVec 32 := Scalar.addi v72 c0_i32_132
  let c5_i32_149 : BitVec 32 := 5#32
  let v110 : BitVec 32 := Scalar.muli v73 c5_i32_149
  let v111 : BitVec 32 := Scalar.addi v110 c2_i32_150
  let c0_i32_153 : BitVec 32 := 0#32
  ![v111.toNat, 0]
def k0_off1661 (v121 : BitVec 32) : Fin 2 → Nat :=
  let c0_i32_157 : BitVec 32 := 0#32
  ![v121.toNat, 0]

def k0_chk677 (v121 : BitVec 32) : Prop :=
  (∀ a, (k0_off1661 v121) a + S1x64.size a ≤ S1000000x64.size a)
instance k0_chk677.dec : ∀ (v121 : BitVec 32), Decidable (k0_chk677 v121) := fun v121 => decidable_of_iff' _ (Iff.of_eq (k0_chk677.eq_1 v121))
theorem k0_off1661_inb : ∀ (v121 : BitVec 32) (k0_hw677 : k0_chk677 v121), ∀ a, (k0_off1661 v121) a + S1x64.size a ≤ S1000000x64.size a := fun v121 k0_hw677 => k0_hw677

def k0_off1662 (k0_t22 : Fin k0_t22_loop.trips) (c3_i32 : BitVec 32) : Fin 2 → Nat :=
  let c0_i32_104 : BitVec 32 := 0#32
  let c1_i32_106 : BitVec 32 := 1#32
  let arg13 : BitVec 32 := Scf.iv c0_i32_104 c1_i32_106 k0_t22
  let c16_i32_131 : BitVec 32 := 16#32
  let v72 : BitVec 32 := Scalar.muli arg13 c16_i32_131
  let c0_i32_132 : BitVec 32 := 0#32
  let v73 : BitVec 32 := Scalar.addi v72 c0_i32_132
  let c5_i32_155 : BitVec 32 := 5#32
  let v122 : BitVec 32 := Scalar.muli v73 c5_i32_155
  let v123 : BitVec 32 := Scalar.addi v122 c3_i32
  let c0_i32_158 : BitVec 32 := 0#32
  ![v123.toNat, 0]
def k0_off1663 (v133 : BitVec 32) : Fin 2 → Nat :=
  let c0_i32_163 : BitVec 32 := 0#32
  ![v133.toNat, 0]

def k0_chk678 (v133 : BitVec 32) : Prop :=
  (∀ a, (k0_off1663 v133) a + S1x64.size a ≤ S1000000x64.size a)
instance k0_chk678.dec : ∀ (v133 : BitVec 32), Decidable (k0_chk678 v133) := fun v133 => decidable_of_iff' _ (Iff.of_eq (k0_chk678.eq_1 v133))
theorem k0_off1663_inb : ∀ (v133 : BitVec 32) (k0_hw678 : k0_chk678 v133), ∀ a, (k0_off1663 v133) a + S1x64.size a ≤ S1000000x64.size a := fun v133 k0_hw678 => k0_hw678

def k0_off1664 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_131 : BitVec 32 := 16#32
  let v72 : BitVec 32 := Scalar.muli arg13 c16_i32_131
  let c0_i32_132 : BitVec 32 := 0#32
  let v73 : BitVec 32 := Scalar.addi v72 c0_i32_132
  let c5_i32_160 : BitVec 32 := 5#32
  let v134 : BitVec 32 := Scalar.muli v73 c5_i32_160
  let c4_i32_161 : BitVec 32 := 4#32
  let v135 : BitVec 32 := Scalar.addi v134 c4_i32_161
  let c0_i32_164 : BitVec 32 := 0#32
  ![v135.toNat, 0]
def k0_off1665 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_166 : BitVec 32 := 16#32
  let v144 : BitVec 32 := Scalar.muli arg13 c16_i32_166
  let c1_i32_167 : BitVec 32 := 1#32
  let v145 : BitVec 32 := Scalar.addi v144 c1_i32_167
  let c0_i32_168 : BitVec 32 := 0#32
  ![v145.toNat, 0]
def k0_off1666 (v147 : BitVec 32) : Fin 2 → Nat :=
  let c0_i32_169 : BitVec 32 := 0#32
  ![v147.toNat, 0]

def k0_chk679 (v147 : BitVec 32) : Prop :=
  (∀ a, (k0_off1666 v147) a + S1x64.size a ≤ S1000000x64.size a)
instance k0_chk679.dec : ∀ (v147 : BitVec 32), Decidable (k0_chk679 v147) := fun v147 => decidable_of_iff' _ (Iff.of_eq (k0_chk679.eq_1 v147))
theorem k0_off1666_inb : ∀ (v147 : BitVec 32) (k0_hw679 : k0_chk679 v147), ∀ a, (k0_off1666 v147) a + S1x64.size a ≤ S1000000x64.size a := fun v147 k0_hw679 => k0_hw679

def k0_off1667 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_166 : BitVec 32 := 16#32
  let v144 : BitVec 32 := Scalar.muli arg13 c16_i32_166
  let c1_i32_167 : BitVec 32 := 1#32
  let v145 : BitVec 32 := Scalar.addi v144 c1_i32_167
  let c0_i32_170 : BitVec 32 := 0#32
  ![v145.toNat, 0]
def k0_off1668 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_166 : BitVec 32 := 16#32
  let v144 : BitVec 32 := Scalar.muli arg13 c16_i32_166
  let c1_i32_167 : BitVec 32 := 1#32
  let v145 : BitVec 32 := Scalar.addi v144 c1_i32_167
  let c5_i32_172 : BitVec 32 := 5#32
  let v158 : BitVec 32 := Scalar.muli v145 c5_i32_172
  let c0_i32_173 : BitVec 32 := 0#32
  let v159 : BitVec 32 := Scalar.addi v158 c0_i32_173
  let c0_i32_174 : BitVec 32 := 0#32
  ![v159.toNat, 0]
def k0_off1669 (v157 : BitVec 32) : Fin 2 → Nat :=
  let c0_i32_175 : BitVec 32 := 0#32
  ![v157.toNat, 0]

def k0_chk680 (v157 : BitVec 32) : Prop :=
  (∀ a, (k0_off1669 v157) a + S1x64.size a ≤ S1000000x64.size a)
instance k0_chk680.dec : ∀ (v157 : BitVec 32), Decidable (k0_chk680 v157) := fun v157 => decidable_of_iff' _ (Iff.of_eq (k0_chk680.eq_1 v157))
theorem k0_off1669_inb : ∀ (v157 : BitVec 32) (k0_hw680 : k0_chk680 v157), ∀ a, (k0_off1669 v157) a + S1x64.size a ≤ S1000000x64.size a := fun v157 k0_hw680 => k0_hw680

def k0_off1670 (k0_t22 : Fin k0_t22_loop.trips) (c0_i32_173 : BitVec 32) : Fin 2 → Nat :=
  let c0_i32_104 : BitVec 32 := 0#32
  let c1_i32_106 : BitVec 32 := 1#32
  let arg13 : BitVec 32 := Scf.iv c0_i32_104 c1_i32_106 k0_t22
  let c16_i32_166 : BitVec 32 := 16#32
  let v144 : BitVec 32 := Scalar.muli arg13 c16_i32_166
  let c1_i32_167 : BitVec 32 := 1#32
  let v145 : BitVec 32 := Scalar.addi v144 c1_i32_167
  let c5_i32_172 : BitVec 32 := 5#32
  let v158 : BitVec 32 := Scalar.muli v145 c5_i32_172
  let v159 : BitVec 32 := Scalar.addi v158 c0_i32_173
  let c0_i32_176 : BitVec 32 := 0#32
  ![v159.toNat, 0]
def k0_off1671 (v169 : BitVec 32) : Fin 2 → Nat :=
  let c0_i32_181 : BitVec 32 := 0#32
  ![v169.toNat, 0]

def k0_chk681 (v169 : BitVec 32) : Prop :=
  (∀ a, (k0_off1671 v169) a + S1x64.size a ≤ S1000000x64.size a)
instance k0_chk681.dec : ∀ (v169 : BitVec 32), Decidable (k0_chk681 v169) := fun v169 => decidable_of_iff' _ (Iff.of_eq (k0_chk681.eq_1 v169))
theorem k0_off1671_inb : ∀ (v169 : BitVec 32) (k0_hw681 : k0_chk681 v169), ∀ a, (k0_off1671 v169) a + S1x64.size a ≤ S1000000x64.size a := fun v169 k0_hw681 => k0_hw681

def k0_off1672 (k0_t22 : Fin k0_t22_loop.trips) (c1_i32_179 : BitVec 32) : Fin 2 → Nat :=
  let c0_i32_104 : BitVec 32 := 0#32
  let c1_i32_106 : BitVec 32 := 1#32
  let arg13 : BitVec 32 := Scf.iv c0_i32_104 c1_i32_106 k0_t22
  let c16_i32_166 : BitVec 32 := 16#32
  let v144 : BitVec 32 := Scalar.muli arg13 c16_i32_166
  let c1_i32_167 : BitVec 32 := 1#32
  let v145 : BitVec 32 := Scalar.addi v144 c1_i32_167
  let c5_i32_178 : BitVec 32 := 5#32
  let v170 : BitVec 32 := Scalar.muli v145 c5_i32_178
  let v171 : BitVec 32 := Scalar.addi v170 c1_i32_179
  let c0_i32_182 : BitVec 32 := 0#32
  ![v171.toNat, 0]
def k0_off1673 (v181 : BitVec 32) : Fin 2 → Nat :=
  let c0_i32_187 : BitVec 32 := 0#32
  ![v181.toNat, 0]

def k0_chk682 (v181 : BitVec 32) : Prop :=
  (∀ a, (k0_off1673 v181) a + S1x64.size a ≤ S1000000x64.size a)
instance k0_chk682.dec : ∀ (v181 : BitVec 32), Decidable (k0_chk682 v181) := fun v181 => decidable_of_iff' _ (Iff.of_eq (k0_chk682.eq_1 v181))
theorem k0_off1673_inb : ∀ (v181 : BitVec 32) (k0_hw682 : k0_chk682 v181), ∀ a, (k0_off1673 v181) a + S1x64.size a ≤ S1000000x64.size a := fun v181 k0_hw682 => k0_hw682

def k0_off1674 (k0_t22 : Fin k0_t22_loop.trips) (c2_i32_185 : BitVec 32) : Fin 2 → Nat :=
  let c0_i32_104 : BitVec 32 := 0#32
  let c1_i32_106 : BitVec 32 := 1#32
  let arg13 : BitVec 32 := Scf.iv c0_i32_104 c1_i32_106 k0_t22
  let c16_i32_166 : BitVec 32 := 16#32
  let v144 : BitVec 32 := Scalar.muli arg13 c16_i32_166
  let c1_i32_167 : BitVec 32 := 1#32
  let v145 : BitVec 32 := Scalar.addi v144 c1_i32_167
  let c5_i32_184 : BitVec 32 := 5#32
  let v182 : BitVec 32 := Scalar.muli v145 c5_i32_184
  let v183 : BitVec 32 := Scalar.addi v182 c2_i32_185
  let c0_i32_188 : BitVec 32 := 0#32
  ![v183.toNat, 0]
def k0_off1675 (v193 : BitVec 32) : Fin 2 → Nat :=
  let c0_i32_193 : BitVec 32 := 0#32
  ![v193.toNat, 0]

def k0_chk683 (v193 : BitVec 32) : Prop :=
  (∀ a, (k0_off1675 v193) a + S1x64.size a ≤ S1000000x64.size a)
instance k0_chk683.dec : ∀ (v193 : BitVec 32), Decidable (k0_chk683 v193) := fun v193 => decidable_of_iff' _ (Iff.of_eq (k0_chk683.eq_1 v193))
theorem k0_off1675_inb : ∀ (v193 : BitVec 32) (k0_hw683 : k0_chk683 v193), ∀ a, (k0_off1675 v193) a + S1x64.size a ≤ S1000000x64.size a := fun v193 k0_hw683 => k0_hw683

def k0_off1676 (k0_t22 : Fin k0_t22_loop.trips) (c3_i32_191 : BitVec 32) : Fin 2 → Nat :=
  let c0_i32_104 : BitVec 32 := 0#32
  let c1_i32_106 : BitVec 32 := 1#32
  let arg13 : BitVec 32 := Scf.iv c0_i32_104 c1_i32_106 k0_t22
  let c16_i32_166 : BitVec 32 := 16#32
  let v144 : BitVec 32 := Scalar.muli arg13 c16_i32_166
  let c1_i32_167 : BitVec 32 := 1#32
  let v145 : BitVec 32 := Scalar.addi v144 c1_i32_167
  let c5_i32_190 : BitVec 32 := 5#32
  let v194 : BitVec 32 := Scalar.muli v145 c5_i32_190
  let v195 : BitVec 32 := Scalar.addi v194 c3_i32_191
  let c0_i32_194 : BitVec 32 := 0#32
  ![v195.toNat, 0]
def k0_off1677 (v205 : BitVec 32) : Fin 2 → Nat :=
  let c0_i32_199 : BitVec 32 := 0#32
  ![v205.toNat, 0]

def k0_chk684 (v205 : BitVec 32) : Prop :=
  (∀ a, (k0_off1677 v205) a + S1x64.size a ≤ S1000000x64.size a)
instance k0_chk684.dec : ∀ (v205 : BitVec 32), Decidable (k0_chk684 v205) := fun v205 => decidable_of_iff' _ (Iff.of_eq (k0_chk684.eq_1 v205))
theorem k0_off1677_inb : ∀ (v205 : BitVec 32) (k0_hw684 : k0_chk684 v205), ∀ a, (k0_off1677 v205) a + S1x64.size a ≤ S1000000x64.size a := fun v205 k0_hw684 => k0_hw684

def k0_off1678 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_166 : BitVec 32 := 16#32
  let v144 : BitVec 32 := Scalar.muli arg13 c16_i32_166
  let c1_i32_167 : BitVec 32 := 1#32
  let v145 : BitVec 32 := Scalar.addi v144 c1_i32_167
  let c5_i32_196 : BitVec 32 := 5#32
  let v206 : BitVec 32 := Scalar.muli v145 c5_i32_196
  let c4_i32_197 : BitVec 32 := 4#32
  let v207 : BitVec 32 := Scalar.addi v206 c4_i32_197
  let c0_i32_200 : BitVec 32 := 0#32
  ![v207.toNat, 0]
def k0_off1679 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_202 : BitVec 32 := 16#32
  let v216 : BitVec 32 := Scalar.muli arg13 c16_i32_202
  let c2_i32_203 : BitVec 32 := 2#32
  let v217 : BitVec 32 := Scalar.addi v216 c2_i32_203
  let c0_i32_204 : BitVec 32 := 0#32
  ![v217.toNat, 0]
def k0_off1680 (v219 : BitVec 32) : Fin 2 → Nat :=
  let c0_i32_205 : BitVec 32 := 0#32
  ![v219.toNat, 0]

def k0_chk685 (v219 : BitVec 32) : Prop :=
  (∀ a, (k0_off1680 v219) a + S1x64.size a ≤ S1000000x64.size a)
instance k0_chk685.dec : ∀ (v219 : BitVec 32), Decidable (k0_chk685 v219) := fun v219 => decidable_of_iff' _ (Iff.of_eq (k0_chk685.eq_1 v219))
theorem k0_off1680_inb : ∀ (v219 : BitVec 32) (k0_hw685 : k0_chk685 v219), ∀ a, (k0_off1680 v219) a + S1x64.size a ≤ S1000000x64.size a := fun v219 k0_hw685 => k0_hw685

def k0_off1681 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_202 : BitVec 32 := 16#32
  let v216 : BitVec 32 := Scalar.muli arg13 c16_i32_202
  let c2_i32_203 : BitVec 32 := 2#32
  let v217 : BitVec 32 := Scalar.addi v216 c2_i32_203
  let c0_i32_206 : BitVec 32 := 0#32
  ![v217.toNat, 0]
def k0_off1682 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_202 : BitVec 32 := 16#32
  let v216 : BitVec 32 := Scalar.muli arg13 c16_i32_202
  let c2_i32_203 : BitVec 32 := 2#32
  let v217 : BitVec 32 := Scalar.addi v216 c2_i32_203
  let c5_i32_208 : BitVec 32 := 5#32
  let v230 : BitVec 32 := Scalar.muli v217 c5_i32_208
  let c0_i32_209 : BitVec 32 := 0#32
  let v231 : BitVec 32 := Scalar.addi v230 c0_i32_209
  let c0_i32_210 : BitVec 32 := 0#32
  ![v231.toNat, 0]
def k0_off1683 (v229 : BitVec 32) : Fin 2 → Nat :=
  let c0_i32_211 : BitVec 32 := 0#32
  ![v229.toNat, 0]

def k0_chk686 (v229 : BitVec 32) : Prop :=
  (∀ a, (k0_off1683 v229) a + S1x64.size a ≤ S1000000x64.size a)
instance k0_chk686.dec : ∀ (v229 : BitVec 32), Decidable (k0_chk686 v229) := fun v229 => decidable_of_iff' _ (Iff.of_eq (k0_chk686.eq_1 v229))
theorem k0_off1683_inb : ∀ (v229 : BitVec 32) (k0_hw686 : k0_chk686 v229), ∀ a, (k0_off1683 v229) a + S1x64.size a ≤ S1000000x64.size a := fun v229 k0_hw686 => k0_hw686

def k0_off1684 (k0_t22 : Fin k0_t22_loop.trips) (c0_i32_209 : BitVec 32) : Fin 2 → Nat :=
  let c0_i32_104 : BitVec 32 := 0#32
  let c1_i32_106 : BitVec 32 := 1#32
  let arg13 : BitVec 32 := Scf.iv c0_i32_104 c1_i32_106 k0_t22
  let c16_i32_202 : BitVec 32 := 16#32
  let v216 : BitVec 32 := Scalar.muli arg13 c16_i32_202
  let c2_i32_203 : BitVec 32 := 2#32
  let v217 : BitVec 32 := Scalar.addi v216 c2_i32_203
  let c5_i32_208 : BitVec 32 := 5#32
  let v230 : BitVec 32 := Scalar.muli v217 c5_i32_208
  let v231 : BitVec 32 := Scalar.addi v230 c0_i32_209
  let c0_i32_212 : BitVec 32 := 0#32
  ![v231.toNat, 0]
def k0_off1685 (v241 : BitVec 32) : Fin 2 → Nat :=
  let c0_i32_217 : BitVec 32 := 0#32
  ![v241.toNat, 0]

def k0_chk687 (v241 : BitVec 32) : Prop :=
  (∀ a, (k0_off1685 v241) a + S1x64.size a ≤ S1000000x64.size a)
instance k0_chk687.dec : ∀ (v241 : BitVec 32), Decidable (k0_chk687 v241) := fun v241 => decidable_of_iff' _ (Iff.of_eq (k0_chk687.eq_1 v241))
theorem k0_off1685_inb : ∀ (v241 : BitVec 32) (k0_hw687 : k0_chk687 v241), ∀ a, (k0_off1685 v241) a + S1x64.size a ≤ S1000000x64.size a := fun v241 k0_hw687 => k0_hw687

def k0_off1686 (k0_t22 : Fin k0_t22_loop.trips) (c1_i32_215 : BitVec 32) : Fin 2 → Nat :=
  let c0_i32_104 : BitVec 32 := 0#32
  let c1_i32_106 : BitVec 32 := 1#32
  let arg13 : BitVec 32 := Scf.iv c0_i32_104 c1_i32_106 k0_t22
  let c16_i32_202 : BitVec 32 := 16#32
  let v216 : BitVec 32 := Scalar.muli arg13 c16_i32_202
  let c2_i32_203 : BitVec 32 := 2#32
  let v217 : BitVec 32 := Scalar.addi v216 c2_i32_203
  let c5_i32_214 : BitVec 32 := 5#32
  let v242 : BitVec 32 := Scalar.muli v217 c5_i32_214
  let v243 : BitVec 32 := Scalar.addi v242 c1_i32_215
  let c0_i32_218 : BitVec 32 := 0#32
  ![v243.toNat, 0]
def k0_off1687 (v253 : BitVec 32) : Fin 2 → Nat :=
  let c0_i32_223 : BitVec 32 := 0#32
  ![v253.toNat, 0]

def k0_chk688 (v253 : BitVec 32) : Prop :=
  (∀ a, (k0_off1687 v253) a + S1x64.size a ≤ S1000000x64.size a)
instance k0_chk688.dec : ∀ (v253 : BitVec 32), Decidable (k0_chk688 v253) := fun v253 => decidable_of_iff' _ (Iff.of_eq (k0_chk688.eq_1 v253))
theorem k0_off1687_inb : ∀ (v253 : BitVec 32) (k0_hw688 : k0_chk688 v253), ∀ a, (k0_off1687 v253) a + S1x64.size a ≤ S1000000x64.size a := fun v253 k0_hw688 => k0_hw688

def k0_off1688 (k0_t22 : Fin k0_t22_loop.trips) (c2_i32_221 : BitVec 32) : Fin 2 → Nat :=
  let c0_i32_104 : BitVec 32 := 0#32
  let c1_i32_106 : BitVec 32 := 1#32
  let arg13 : BitVec 32 := Scf.iv c0_i32_104 c1_i32_106 k0_t22
  let c16_i32_202 : BitVec 32 := 16#32
  let v216 : BitVec 32 := Scalar.muli arg13 c16_i32_202
  let c2_i32_203 : BitVec 32 := 2#32
  let v217 : BitVec 32 := Scalar.addi v216 c2_i32_203
  let c5_i32_220 : BitVec 32 := 5#32
  let v254 : BitVec 32 := Scalar.muli v217 c5_i32_220
  let v255 : BitVec 32 := Scalar.addi v254 c2_i32_221
  let c0_i32_224 : BitVec 32 := 0#32
  ![v255.toNat, 0]
def k0_off1689 (v265 : BitVec 32) : Fin 2 → Nat :=
  let c0_i32_229 : BitVec 32 := 0#32
  ![v265.toNat, 0]

def k0_chk689 (v265 : BitVec 32) : Prop :=
  (∀ a, (k0_off1689 v265) a + S1x64.size a ≤ S1000000x64.size a)
instance k0_chk689.dec : ∀ (v265 : BitVec 32), Decidable (k0_chk689 v265) := fun v265 => decidable_of_iff' _ (Iff.of_eq (k0_chk689.eq_1 v265))
theorem k0_off1689_inb : ∀ (v265 : BitVec 32) (k0_hw689 : k0_chk689 v265), ∀ a, (k0_off1689 v265) a + S1x64.size a ≤ S1000000x64.size a := fun v265 k0_hw689 => k0_hw689

def k0_off1690 (k0_t22 : Fin k0_t22_loop.trips) (c3_i32_227 : BitVec 32) : Fin 2 → Nat :=
  let c0_i32_104 : BitVec 32 := 0#32
  let c1_i32_106 : BitVec 32 := 1#32
  let arg13 : BitVec 32 := Scf.iv c0_i32_104 c1_i32_106 k0_t22
  let c16_i32_202 : BitVec 32 := 16#32
  let v216 : BitVec 32 := Scalar.muli arg13 c16_i32_202
  let c2_i32_203 : BitVec 32 := 2#32
  let v217 : BitVec 32 := Scalar.addi v216 c2_i32_203
  let c5_i32_226 : BitVec 32 := 5#32
  let v266 : BitVec 32 := Scalar.muli v217 c5_i32_226
  let v267 : BitVec 32 := Scalar.addi v266 c3_i32_227
  let c0_i32_230 : BitVec 32 := 0#32
  ![v267.toNat, 0]
def k0_off1691 (v277 : BitVec 32) : Fin 2 → Nat :=
  let c0_i32_235 : BitVec 32 := 0#32
  ![v277.toNat, 0]

def k0_chk690 (v277 : BitVec 32) : Prop :=
  (∀ a, (k0_off1691 v277) a + S1x64.size a ≤ S1000000x64.size a)
instance k0_chk690.dec : ∀ (v277 : BitVec 32), Decidable (k0_chk690 v277) := fun v277 => decidable_of_iff' _ (Iff.of_eq (k0_chk690.eq_1 v277))
theorem k0_off1691_inb : ∀ (v277 : BitVec 32) (k0_hw690 : k0_chk690 v277), ∀ a, (k0_off1691 v277) a + S1x64.size a ≤ S1000000x64.size a := fun v277 k0_hw690 => k0_hw690

def k0_off1692 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_202 : BitVec 32 := 16#32
  let v216 : BitVec 32 := Scalar.muli arg13 c16_i32_202
  let c2_i32_203 : BitVec 32 := 2#32
  let v217 : BitVec 32 := Scalar.addi v216 c2_i32_203
  let c5_i32_232 : BitVec 32 := 5#32
  let v278 : BitVec 32 := Scalar.muli v217 c5_i32_232
  let c4_i32_233 : BitVec 32 := 4#32
  let v279 : BitVec 32 := Scalar.addi v278 c4_i32_233
  let c0_i32_236 : BitVec 32 := 0#32
  ![v279.toNat, 0]
def k0_off1693 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_238 : BitVec 32 := 16#32
  let v288 : BitVec 32 := Scalar.muli arg13 c16_i32_238
  let c3_i32_239 : BitVec 32 := 3#32
  let v289 : BitVec 32 := Scalar.addi v288 c3_i32_239
  let c0_i32_240 : BitVec 32 := 0#32
  ![v289.toNat, 0]
def k0_off1694 (v291 : BitVec 32) : Fin 2 → Nat :=
  let c0_i32_241 : BitVec 32 := 0#32
  ![v291.toNat, 0]

def k0_chk691 (v291 : BitVec 32) : Prop :=
  (∀ a, (k0_off1694 v291) a + S1x64.size a ≤ S1000000x64.size a)
instance k0_chk691.dec : ∀ (v291 : BitVec 32), Decidable (k0_chk691 v291) := fun v291 => decidable_of_iff' _ (Iff.of_eq (k0_chk691.eq_1 v291))
theorem k0_off1694_inb : ∀ (v291 : BitVec 32) (k0_hw691 : k0_chk691 v291), ∀ a, (k0_off1694 v291) a + S1x64.size a ≤ S1000000x64.size a := fun v291 k0_hw691 => k0_hw691

def k0_off1695 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_238 : BitVec 32 := 16#32
  let v288 : BitVec 32 := Scalar.muli arg13 c16_i32_238
  let c3_i32_239 : BitVec 32 := 3#32
  let v289 : BitVec 32 := Scalar.addi v288 c3_i32_239
  let c0_i32_242 : BitVec 32 := 0#32
  ![v289.toNat, 0]
def k0_off1696 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_238 : BitVec 32 := 16#32
  let v288 : BitVec 32 := Scalar.muli arg13 c16_i32_238
  let c3_i32_239 : BitVec 32 := 3#32
  let v289 : BitVec 32 := Scalar.addi v288 c3_i32_239
  let c5_i32_244 : BitVec 32 := 5#32
  let v302 : BitVec 32 := Scalar.muli v289 c5_i32_244
  let c0_i32_245 : BitVec 32 := 0#32
  let v303 : BitVec 32 := Scalar.addi v302 c0_i32_245
  let c0_i32_246 : BitVec 32 := 0#32
  ![v303.toNat, 0]
def k0_off1697 (v301 : BitVec 32) : Fin 2 → Nat :=
  let c0_i32_247 : BitVec 32 := 0#32
  ![v301.toNat, 0]

def k0_chk692 (v301 : BitVec 32) : Prop :=
  (∀ a, (k0_off1697 v301) a + S1x64.size a ≤ S1000000x64.size a)
instance k0_chk692.dec : ∀ (v301 : BitVec 32), Decidable (k0_chk692 v301) := fun v301 => decidable_of_iff' _ (Iff.of_eq (k0_chk692.eq_1 v301))
theorem k0_off1697_inb : ∀ (v301 : BitVec 32) (k0_hw692 : k0_chk692 v301), ∀ a, (k0_off1697 v301) a + S1x64.size a ≤ S1000000x64.size a := fun v301 k0_hw692 => k0_hw692

def k0_off1698 (k0_t22 : Fin k0_t22_loop.trips) (c0_i32_245 : BitVec 32) : Fin 2 → Nat :=
  let c0_i32_104 : BitVec 32 := 0#32
  let c1_i32_106 : BitVec 32 := 1#32
  let arg13 : BitVec 32 := Scf.iv c0_i32_104 c1_i32_106 k0_t22
  let c16_i32_238 : BitVec 32 := 16#32
  let v288 : BitVec 32 := Scalar.muli arg13 c16_i32_238
  let c3_i32_239 : BitVec 32 := 3#32
  let v289 : BitVec 32 := Scalar.addi v288 c3_i32_239
  let c5_i32_244 : BitVec 32 := 5#32
  let v302 : BitVec 32 := Scalar.muli v289 c5_i32_244
  let v303 : BitVec 32 := Scalar.addi v302 c0_i32_245
  let c0_i32_248 : BitVec 32 := 0#32
  ![v303.toNat, 0]
def k0_off1699 (v313 : BitVec 32) : Fin 2 → Nat :=
  let c0_i32_253 : BitVec 32 := 0#32
  ![v313.toNat, 0]

def k0_chk693 (v313 : BitVec 32) : Prop :=
  (∀ a, (k0_off1699 v313) a + S1x64.size a ≤ S1000000x64.size a)
instance k0_chk693.dec : ∀ (v313 : BitVec 32), Decidable (k0_chk693 v313) := fun v313 => decidable_of_iff' _ (Iff.of_eq (k0_chk693.eq_1 v313))
theorem k0_off1699_inb : ∀ (v313 : BitVec 32) (k0_hw693 : k0_chk693 v313), ∀ a, (k0_off1699 v313) a + S1x64.size a ≤ S1000000x64.size a := fun v313 k0_hw693 => k0_hw693

def k0_off1700 (k0_t22 : Fin k0_t22_loop.trips) (c1_i32_251 : BitVec 32) : Fin 2 → Nat :=
  let c0_i32_104 : BitVec 32 := 0#32
  let c1_i32_106 : BitVec 32 := 1#32
  let arg13 : BitVec 32 := Scf.iv c0_i32_104 c1_i32_106 k0_t22
  let c16_i32_238 : BitVec 32 := 16#32
  let v288 : BitVec 32 := Scalar.muli arg13 c16_i32_238
  let c3_i32_239 : BitVec 32 := 3#32
  let v289 : BitVec 32 := Scalar.addi v288 c3_i32_239
  let c5_i32_250 : BitVec 32 := 5#32
  let v314 : BitVec 32 := Scalar.muli v289 c5_i32_250
  let v315 : BitVec 32 := Scalar.addi v314 c1_i32_251
  let c0_i32_254 : BitVec 32 := 0#32
  ![v315.toNat, 0]
def k0_off1701 (v325 : BitVec 32) : Fin 2 → Nat :=
  let c0_i32_259 : BitVec 32 := 0#32
  ![v325.toNat, 0]

def k0_chk694 (v325 : BitVec 32) : Prop :=
  (∀ a, (k0_off1701 v325) a + S1x64.size a ≤ S1000000x64.size a)
instance k0_chk694.dec : ∀ (v325 : BitVec 32), Decidable (k0_chk694 v325) := fun v325 => decidable_of_iff' _ (Iff.of_eq (k0_chk694.eq_1 v325))
theorem k0_off1701_inb : ∀ (v325 : BitVec 32) (k0_hw694 : k0_chk694 v325), ∀ a, (k0_off1701 v325) a + S1x64.size a ≤ S1000000x64.size a := fun v325 k0_hw694 => k0_hw694

def k0_off1702 (k0_t22 : Fin k0_t22_loop.trips) (c2_i32_257 : BitVec 32) : Fin 2 → Nat :=
  let c0_i32_104 : BitVec 32 := 0#32
  let c1_i32_106 : BitVec 32 := 1#32
  let arg13 : BitVec 32 := Scf.iv c0_i32_104 c1_i32_106 k0_t22
  let c16_i32_238 : BitVec 32 := 16#32
  let v288 : BitVec 32 := Scalar.muli arg13 c16_i32_238
  let c3_i32_239 : BitVec 32 := 3#32
  let v289 : BitVec 32 := Scalar.addi v288 c3_i32_239
  let c5_i32_256 : BitVec 32 := 5#32
  let v326 : BitVec 32 := Scalar.muli v289 c5_i32_256
  let v327 : BitVec 32 := Scalar.addi v326 c2_i32_257
  let c0_i32_260 : BitVec 32 := 0#32
  ![v327.toNat, 0]
def k0_off1703 (v337 : BitVec 32) : Fin 2 → Nat :=
  let c0_i32_265 : BitVec 32 := 0#32
  ![v337.toNat, 0]

def k0_chk695 (v337 : BitVec 32) : Prop :=
  (∀ a, (k0_off1703 v337) a + S1x64.size a ≤ S1000000x64.size a)
instance k0_chk695.dec : ∀ (v337 : BitVec 32), Decidable (k0_chk695 v337) := fun v337 => decidable_of_iff' _ (Iff.of_eq (k0_chk695.eq_1 v337))
theorem k0_off1703_inb : ∀ (v337 : BitVec 32) (k0_hw695 : k0_chk695 v337), ∀ a, (k0_off1703 v337) a + S1x64.size a ≤ S1000000x64.size a := fun v337 k0_hw695 => k0_hw695

def k0_off1704 (k0_t22 : Fin k0_t22_loop.trips) (c3_i32_263 : BitVec 32) : Fin 2 → Nat :=
  let c0_i32_104 : BitVec 32 := 0#32
  let c1_i32_106 : BitVec 32 := 1#32
  let arg13 : BitVec 32 := Scf.iv c0_i32_104 c1_i32_106 k0_t22
  let c16_i32_238 : BitVec 32 := 16#32
  let v288 : BitVec 32 := Scalar.muli arg13 c16_i32_238
  let c3_i32_239 : BitVec 32 := 3#32
  let v289 : BitVec 32 := Scalar.addi v288 c3_i32_239
  let c5_i32_262 : BitVec 32 := 5#32
  let v338 : BitVec 32 := Scalar.muli v289 c5_i32_262
  let v339 : BitVec 32 := Scalar.addi v338 c3_i32_263
  let c0_i32_266 : BitVec 32 := 0#32
  ![v339.toNat, 0]
def k0_off1705 (v349 : BitVec 32) : Fin 2 → Nat :=
  let c0_i32_271 : BitVec 32 := 0#32
  ![v349.toNat, 0]

def k0_chk696 (v349 : BitVec 32) : Prop :=
  (∀ a, (k0_off1705 v349) a + S1x64.size a ≤ S1000000x64.size a)
instance k0_chk696.dec : ∀ (v349 : BitVec 32), Decidable (k0_chk696 v349) := fun v349 => decidable_of_iff' _ (Iff.of_eq (k0_chk696.eq_1 v349))
theorem k0_off1705_inb : ∀ (v349 : BitVec 32) (k0_hw696 : k0_chk696 v349), ∀ a, (k0_off1705 v349) a + S1x64.size a ≤ S1000000x64.size a := fun v349 k0_hw696 => k0_hw696

def k0_off1706 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_238 : BitVec 32 := 16#32
  let v288 : BitVec 32 := Scalar.muli arg13 c16_i32_238
  let c3_i32_239 : BitVec 32 := 3#32
  let v289 : BitVec 32 := Scalar.addi v288 c3_i32_239
  let c5_i32_268 : BitVec 32 := 5#32
  let v350 : BitVec 32 := Scalar.muli v289 c5_i32_268
  let c4_i32_269 : BitVec 32 := 4#32
  let v351 : BitVec 32 := Scalar.addi v350 c4_i32_269
  let c0_i32_272 : BitVec 32 := 0#32
  ![v351.toNat, 0]
def k0_off1707 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_274 : BitVec 32 := 16#32
  let v360 : BitVec 32 := Scalar.muli arg13 c16_i32_274
  let c4_i32_275 : BitVec 32 := 4#32
  let v361 : BitVec 32 := Scalar.addi v360 c4_i32_275
  let c0_i32_276 : BitVec 32 := 0#32
  ![v361.toNat, 0]
def k0_off1708 (v363 : BitVec 32) : Fin 2 → Nat :=
  let c0_i32_277 : BitVec 32 := 0#32
  ![v363.toNat, 0]

def k0_chk697 (v363 : BitVec 32) : Prop :=
  (∀ a, (k0_off1708 v363) a + S1x64.size a ≤ S1000000x64.size a)
instance k0_chk697.dec : ∀ (v363 : BitVec 32), Decidable (k0_chk697 v363) := fun v363 => decidable_of_iff' _ (Iff.of_eq (k0_chk697.eq_1 v363))
theorem k0_off1708_inb : ∀ (v363 : BitVec 32) (k0_hw697 : k0_chk697 v363), ∀ a, (k0_off1708 v363) a + S1x64.size a ≤ S1000000x64.size a := fun v363 k0_hw697 => k0_hw697

def k0_off1709 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_274 : BitVec 32 := 16#32
  let v360 : BitVec 32 := Scalar.muli arg13 c16_i32_274
  let c4_i32_275 : BitVec 32 := 4#32
  let v361 : BitVec 32 := Scalar.addi v360 c4_i32_275
  let c0_i32_278 : BitVec 32 := 0#32
  ![v361.toNat, 0]
def k0_off1710 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_274 : BitVec 32 := 16#32
  let v360 : BitVec 32 := Scalar.muli arg13 c16_i32_274
  let c4_i32_275 : BitVec 32 := 4#32
  let v361 : BitVec 32 := Scalar.addi v360 c4_i32_275
  let c5_i32_280 : BitVec 32 := 5#32
  let v374 : BitVec 32 := Scalar.muli v361 c5_i32_280
  let c0_i32_281 : BitVec 32 := 0#32
  let v375 : BitVec 32 := Scalar.addi v374 c0_i32_281
  let c0_i32_282 : BitVec 32 := 0#32
  ![v375.toNat, 0]
def k0_off1711 (v373 : BitVec 32) : Fin 2 → Nat :=
  let c0_i32_283 : BitVec 32 := 0#32
  ![v373.toNat, 0]

def k0_chk698 (v373 : BitVec 32) : Prop :=
  (∀ a, (k0_off1711 v373) a + S1x64.size a ≤ S1000000x64.size a)
instance k0_chk698.dec : ∀ (v373 : BitVec 32), Decidable (k0_chk698 v373) := fun v373 => decidable_of_iff' _ (Iff.of_eq (k0_chk698.eq_1 v373))
theorem k0_off1711_inb : ∀ (v373 : BitVec 32) (k0_hw698 : k0_chk698 v373), ∀ a, (k0_off1711 v373) a + S1x64.size a ≤ S1000000x64.size a := fun v373 k0_hw698 => k0_hw698

def k0_off1712 (k0_t22 : Fin k0_t22_loop.trips) (c0_i32_281 : BitVec 32) : Fin 2 → Nat :=
  let c0_i32_104 : BitVec 32 := 0#32
  let c1_i32_106 : BitVec 32 := 1#32
  let arg13 : BitVec 32 := Scf.iv c0_i32_104 c1_i32_106 k0_t22
  let c16_i32_274 : BitVec 32 := 16#32
  let v360 : BitVec 32 := Scalar.muli arg13 c16_i32_274
  let c4_i32_275 : BitVec 32 := 4#32
  let v361 : BitVec 32 := Scalar.addi v360 c4_i32_275
  let c5_i32_280 : BitVec 32 := 5#32
  let v374 : BitVec 32 := Scalar.muli v361 c5_i32_280
  let v375 : BitVec 32 := Scalar.addi v374 c0_i32_281
  let c0_i32_284 : BitVec 32 := 0#32
  ![v375.toNat, 0]
def k0_off1713 (v385 : BitVec 32) : Fin 2 → Nat :=
  let c0_i32_289 : BitVec 32 := 0#32
  ![v385.toNat, 0]

def k0_chk699 (v385 : BitVec 32) : Prop :=
  (∀ a, (k0_off1713 v385) a + S1x64.size a ≤ S1000000x64.size a)
instance k0_chk699.dec : ∀ (v385 : BitVec 32), Decidable (k0_chk699 v385) := fun v385 => decidable_of_iff' _ (Iff.of_eq (k0_chk699.eq_1 v385))
theorem k0_off1713_inb : ∀ (v385 : BitVec 32) (k0_hw699 : k0_chk699 v385), ∀ a, (k0_off1713 v385) a + S1x64.size a ≤ S1000000x64.size a := fun v385 k0_hw699 => k0_hw699

def k0_off1714 (k0_t22 : Fin k0_t22_loop.trips) (c1_i32_287 : BitVec 32) : Fin 2 → Nat :=
  let c0_i32_104 : BitVec 32 := 0#32
  let c1_i32_106 : BitVec 32 := 1#32
  let arg13 : BitVec 32 := Scf.iv c0_i32_104 c1_i32_106 k0_t22
  let c16_i32_274 : BitVec 32 := 16#32
  let v360 : BitVec 32 := Scalar.muli arg13 c16_i32_274
  let c4_i32_275 : BitVec 32 := 4#32
  let v361 : BitVec 32 := Scalar.addi v360 c4_i32_275
  let c5_i32_286 : BitVec 32 := 5#32
  let v386 : BitVec 32 := Scalar.muli v361 c5_i32_286
  let v387 : BitVec 32 := Scalar.addi v386 c1_i32_287
  let c0_i32_290 : BitVec 32 := 0#32
  ![v387.toNat, 0]
def k0_off1715 (v397 : BitVec 32) : Fin 2 → Nat :=
  let c0_i32_295 : BitVec 32 := 0#32
  ![v397.toNat, 0]

def k0_chk700 (v397 : BitVec 32) : Prop :=
  (∀ a, (k0_off1715 v397) a + S1x64.size a ≤ S1000000x64.size a)
instance k0_chk700.dec : ∀ (v397 : BitVec 32), Decidable (k0_chk700 v397) := fun v397 => decidable_of_iff' _ (Iff.of_eq (k0_chk700.eq_1 v397))
theorem k0_off1715_inb : ∀ (v397 : BitVec 32) (k0_hw700 : k0_chk700 v397), ∀ a, (k0_off1715 v397) a + S1x64.size a ≤ S1000000x64.size a := fun v397 k0_hw700 => k0_hw700

def k0_off1716 (k0_t22 : Fin k0_t22_loop.trips) (c2_i32_293 : BitVec 32) : Fin 2 → Nat :=
  let c0_i32_104 : BitVec 32 := 0#32
  let c1_i32_106 : BitVec 32 := 1#32
  let arg13 : BitVec 32 := Scf.iv c0_i32_104 c1_i32_106 k0_t22
  let c16_i32_274 : BitVec 32 := 16#32
  let v360 : BitVec 32 := Scalar.muli arg13 c16_i32_274
  let c4_i32_275 : BitVec 32 := 4#32
  let v361 : BitVec 32 := Scalar.addi v360 c4_i32_275
  let c5_i32_292 : BitVec 32 := 5#32
  let v398 : BitVec 32 := Scalar.muli v361 c5_i32_292
  let v399 : BitVec 32 := Scalar.addi v398 c2_i32_293
  let c0_i32_296 : BitVec 32 := 0#32
  ![v399.toNat, 0]
def k0_off1717 (v409 : BitVec 32) : Fin 2 → Nat :=
  let c0_i32_301 : BitVec 32 := 0#32
  ![v409.toNat, 0]

def k0_chk701 (v409 : BitVec 32) : Prop :=
  (∀ a, (k0_off1717 v409) a + S1x64.size a ≤ S1000000x64.size a)
instance k0_chk701.dec : ∀ (v409 : BitVec 32), Decidable (k0_chk701 v409) := fun v409 => decidable_of_iff' _ (Iff.of_eq (k0_chk701.eq_1 v409))
theorem k0_off1717_inb : ∀ (v409 : BitVec 32) (k0_hw701 : k0_chk701 v409), ∀ a, (k0_off1717 v409) a + S1x64.size a ≤ S1000000x64.size a := fun v409 k0_hw701 => k0_hw701

def k0_off1718 (k0_t22 : Fin k0_t22_loop.trips) (c3_i32_299 : BitVec 32) : Fin 2 → Nat :=
  let c0_i32_104 : BitVec 32 := 0#32
  let c1_i32_106 : BitVec 32 := 1#32
  let arg13 : BitVec 32 := Scf.iv c0_i32_104 c1_i32_106 k0_t22
  let c16_i32_274 : BitVec 32 := 16#32
  let v360 : BitVec 32 := Scalar.muli arg13 c16_i32_274
  let c4_i32_275 : BitVec 32 := 4#32
  let v361 : BitVec 32 := Scalar.addi v360 c4_i32_275
  let c5_i32_298 : BitVec 32 := 5#32
  let v410 : BitVec 32 := Scalar.muli v361 c5_i32_298
  let v411 : BitVec 32 := Scalar.addi v410 c3_i32_299
  let c0_i32_302 : BitVec 32 := 0#32
  ![v411.toNat, 0]
def k0_off1719 (v421 : BitVec 32) : Fin 2 → Nat :=
  let c0_i32_307 : BitVec 32 := 0#32
  ![v421.toNat, 0]

def k0_chk702 (v421 : BitVec 32) : Prop :=
  (∀ a, (k0_off1719 v421) a + S1x64.size a ≤ S1000000x64.size a)
instance k0_chk702.dec : ∀ (v421 : BitVec 32), Decidable (k0_chk702 v421) := fun v421 => decidable_of_iff' _ (Iff.of_eq (k0_chk702.eq_1 v421))
theorem k0_off1719_inb : ∀ (v421 : BitVec 32) (k0_hw702 : k0_chk702 v421), ∀ a, (k0_off1719 v421) a + S1x64.size a ≤ S1000000x64.size a := fun v421 k0_hw702 => k0_hw702

def k0_off1720 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_274 : BitVec 32 := 16#32
  let v360 : BitVec 32 := Scalar.muli arg13 c16_i32_274
  let c4_i32_275 : BitVec 32 := 4#32
  let v361 : BitVec 32 := Scalar.addi v360 c4_i32_275
  let c5_i32_304 : BitVec 32 := 5#32
  let v422 : BitVec 32 := Scalar.muli v361 c5_i32_304
  let c4_i32_305 : BitVec 32 := 4#32
  let v423 : BitVec 32 := Scalar.addi v422 c4_i32_305
  let c0_i32_308 : BitVec 32 := 0#32
  ![v423.toNat, 0]
def k0_off1721 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_310 : BitVec 32 := 16#32
  let v432 : BitVec 32 := Scalar.muli arg13 c16_i32_310
  let c5_i32_311 : BitVec 32 := 5#32
  let v433 : BitVec 32 := Scalar.addi v432 c5_i32_311
  let c0_i32_312 : BitVec 32 := 0#32
  ![v433.toNat, 0]
def k0_off1722 (v435 : BitVec 32) : Fin 2 → Nat :=
  let c0_i32_313 : BitVec 32 := 0#32
  ![v435.toNat, 0]

def k0_chk703 (v435 : BitVec 32) : Prop :=
  (∀ a, (k0_off1722 v435) a + S1x64.size a ≤ S1000000x64.size a)
instance k0_chk703.dec : ∀ (v435 : BitVec 32), Decidable (k0_chk703 v435) := fun v435 => decidable_of_iff' _ (Iff.of_eq (k0_chk703.eq_1 v435))
theorem k0_off1722_inb : ∀ (v435 : BitVec 32) (k0_hw703 : k0_chk703 v435), ∀ a, (k0_off1722 v435) a + S1x64.size a ≤ S1000000x64.size a := fun v435 k0_hw703 => k0_hw703

def k0_off1723 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_310 : BitVec 32 := 16#32
  let v432 : BitVec 32 := Scalar.muli arg13 c16_i32_310
  let c5_i32_311 : BitVec 32 := 5#32
  let v433 : BitVec 32 := Scalar.addi v432 c5_i32_311
  let c0_i32_314 : BitVec 32 := 0#32
  ![v433.toNat, 0]
def k0_off1724 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_310 : BitVec 32 := 16#32
  let v432 : BitVec 32 := Scalar.muli arg13 c16_i32_310
  let c5_i32_311 : BitVec 32 := 5#32
  let v433 : BitVec 32 := Scalar.addi v432 c5_i32_311
  let c5_i32_316 : BitVec 32 := 5#32
  let v446 : BitVec 32 := Scalar.muli v433 c5_i32_316
  let c0_i32_317 : BitVec 32 := 0#32
  let v447 : BitVec 32 := Scalar.addi v446 c0_i32_317
  let c0_i32_318 : BitVec 32 := 0#32
  ![v447.toNat, 0]
def k0_off1725 (v445 : BitVec 32) : Fin 2 → Nat :=
  let c0_i32_319 : BitVec 32 := 0#32
  ![v445.toNat, 0]

def k0_chk704 (v445 : BitVec 32) : Prop :=
  (∀ a, (k0_off1725 v445) a + S1x64.size a ≤ S1000000x64.size a)
instance k0_chk704.dec : ∀ (v445 : BitVec 32), Decidable (k0_chk704 v445) := fun v445 => decidable_of_iff' _ (Iff.of_eq (k0_chk704.eq_1 v445))
theorem k0_off1725_inb : ∀ (v445 : BitVec 32) (k0_hw704 : k0_chk704 v445), ∀ a, (k0_off1725 v445) a + S1x64.size a ≤ S1000000x64.size a := fun v445 k0_hw704 => k0_hw704

def k0_off1726 (k0_t22 : Fin k0_t22_loop.trips) (c0_i32_317 : BitVec 32) : Fin 2 → Nat :=
  let c0_i32_104 : BitVec 32 := 0#32
  let c1_i32_106 : BitVec 32 := 1#32
  let arg13 : BitVec 32 := Scf.iv c0_i32_104 c1_i32_106 k0_t22
  let c16_i32_310 : BitVec 32 := 16#32
  let v432 : BitVec 32 := Scalar.muli arg13 c16_i32_310
  let c5_i32_311 : BitVec 32 := 5#32
  let v433 : BitVec 32 := Scalar.addi v432 c5_i32_311
  let c5_i32_316 : BitVec 32 := 5#32
  let v446 : BitVec 32 := Scalar.muli v433 c5_i32_316
  let v447 : BitVec 32 := Scalar.addi v446 c0_i32_317
  let c0_i32_320 : BitVec 32 := 0#32
  ![v447.toNat, 0]
def k0_off1727 (v457 : BitVec 32) : Fin 2 → Nat :=
  let c0_i32_325 : BitVec 32 := 0#32
  ![v457.toNat, 0]

def k0_chk705 (v457 : BitVec 32) : Prop :=
  (∀ a, (k0_off1727 v457) a + S1x64.size a ≤ S1000000x64.size a)
instance k0_chk705.dec : ∀ (v457 : BitVec 32), Decidable (k0_chk705 v457) := fun v457 => decidable_of_iff' _ (Iff.of_eq (k0_chk705.eq_1 v457))
theorem k0_off1727_inb : ∀ (v457 : BitVec 32) (k0_hw705 : k0_chk705 v457), ∀ a, (k0_off1727 v457) a + S1x64.size a ≤ S1000000x64.size a := fun v457 k0_hw705 => k0_hw705

def k0_off1728 (k0_t22 : Fin k0_t22_loop.trips) (c1_i32_323 : BitVec 32) : Fin 2 → Nat :=
  let c0_i32_104 : BitVec 32 := 0#32
  let c1_i32_106 : BitVec 32 := 1#32
  let arg13 : BitVec 32 := Scf.iv c0_i32_104 c1_i32_106 k0_t22
  let c16_i32_310 : BitVec 32 := 16#32
  let v432 : BitVec 32 := Scalar.muli arg13 c16_i32_310
  let c5_i32_311 : BitVec 32 := 5#32
  let v433 : BitVec 32 := Scalar.addi v432 c5_i32_311
  let c5_i32_322 : BitVec 32 := 5#32
  let v458 : BitVec 32 := Scalar.muli v433 c5_i32_322
  let v459 : BitVec 32 := Scalar.addi v458 c1_i32_323
  let c0_i32_326 : BitVec 32 := 0#32
  ![v459.toNat, 0]
def k0_off1729 (v469 : BitVec 32) : Fin 2 → Nat :=
  let c0_i32_331 : BitVec 32 := 0#32
  ![v469.toNat, 0]

def k0_chk706 (v469 : BitVec 32) : Prop :=
  (∀ a, (k0_off1729 v469) a + S1x64.size a ≤ S1000000x64.size a)
instance k0_chk706.dec : ∀ (v469 : BitVec 32), Decidable (k0_chk706 v469) := fun v469 => decidable_of_iff' _ (Iff.of_eq (k0_chk706.eq_1 v469))
theorem k0_off1729_inb : ∀ (v469 : BitVec 32) (k0_hw706 : k0_chk706 v469), ∀ a, (k0_off1729 v469) a + S1x64.size a ≤ S1000000x64.size a := fun v469 k0_hw706 => k0_hw706

def k0_off1730 (k0_t22 : Fin k0_t22_loop.trips) (c2_i32_329 : BitVec 32) : Fin 2 → Nat :=
  let c0_i32_104 : BitVec 32 := 0#32
  let c1_i32_106 : BitVec 32 := 1#32
  let arg13 : BitVec 32 := Scf.iv c0_i32_104 c1_i32_106 k0_t22
  let c16_i32_310 : BitVec 32 := 16#32
  let v432 : BitVec 32 := Scalar.muli arg13 c16_i32_310
  let c5_i32_311 : BitVec 32 := 5#32
  let v433 : BitVec 32 := Scalar.addi v432 c5_i32_311
  let c5_i32_328 : BitVec 32 := 5#32
  let v470 : BitVec 32 := Scalar.muli v433 c5_i32_328
  let v471 : BitVec 32 := Scalar.addi v470 c2_i32_329
  let c0_i32_332 : BitVec 32 := 0#32
  ![v471.toNat, 0]
def k0_off1731 (v481 : BitVec 32) : Fin 2 → Nat :=
  let c0_i32_337 : BitVec 32 := 0#32
  ![v481.toNat, 0]

def k0_chk707 (v481 : BitVec 32) : Prop :=
  (∀ a, (k0_off1731 v481) a + S1x64.size a ≤ S1000000x64.size a)
instance k0_chk707.dec : ∀ (v481 : BitVec 32), Decidable (k0_chk707 v481) := fun v481 => decidable_of_iff' _ (Iff.of_eq (k0_chk707.eq_1 v481))
theorem k0_off1731_inb : ∀ (v481 : BitVec 32) (k0_hw707 : k0_chk707 v481), ∀ a, (k0_off1731 v481) a + S1x64.size a ≤ S1000000x64.size a := fun v481 k0_hw707 => k0_hw707

def k0_off1732 (k0_t22 : Fin k0_t22_loop.trips) (c3_i32_335 : BitVec 32) : Fin 2 → Nat :=
  let c0_i32_104 : BitVec 32 := 0#32
  let c1_i32_106 : BitVec 32 := 1#32
  let arg13 : BitVec 32 := Scf.iv c0_i32_104 c1_i32_106 k0_t22
  let c16_i32_310 : BitVec 32 := 16#32
  let v432 : BitVec 32 := Scalar.muli arg13 c16_i32_310
  let c5_i32_311 : BitVec 32 := 5#32
  let v433 : BitVec 32 := Scalar.addi v432 c5_i32_311
  let c5_i32_334 : BitVec 32 := 5#32
  let v482 : BitVec 32 := Scalar.muli v433 c5_i32_334
  let v483 : BitVec 32 := Scalar.addi v482 c3_i32_335
  let c0_i32_338 : BitVec 32 := 0#32
  ![v483.toNat, 0]
def k0_off1733 (v493 : BitVec 32) : Fin 2 → Nat :=
  let c0_i32_343 : BitVec 32 := 0#32
  ![v493.toNat, 0]

def k0_chk708 (v493 : BitVec 32) : Prop :=
  (∀ a, (k0_off1733 v493) a + S1x64.size a ≤ S1000000x64.size a)
instance k0_chk708.dec : ∀ (v493 : BitVec 32), Decidable (k0_chk708 v493) := fun v493 => decidable_of_iff' _ (Iff.of_eq (k0_chk708.eq_1 v493))
theorem k0_off1733_inb : ∀ (v493 : BitVec 32) (k0_hw708 : k0_chk708 v493), ∀ a, (k0_off1733 v493) a + S1x64.size a ≤ S1000000x64.size a := fun v493 k0_hw708 => k0_hw708

def k0_off1734 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_310 : BitVec 32 := 16#32
  let v432 : BitVec 32 := Scalar.muli arg13 c16_i32_310
  let c5_i32_311 : BitVec 32 := 5#32
  let v433 : BitVec 32 := Scalar.addi v432 c5_i32_311
  let c5_i32_340 : BitVec 32 := 5#32
  let v494 : BitVec 32 := Scalar.muli v433 c5_i32_340
  let c4_i32_341 : BitVec 32 := 4#32
  let v495 : BitVec 32 := Scalar.addi v494 c4_i32_341
  let c0_i32_344 : BitVec 32 := 0#32
  ![v495.toNat, 0]
def k0_off1735 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_346 : BitVec 32 := 16#32
  let v504 : BitVec 32 := Scalar.muli arg13 c16_i32_346
  let c6_i32 : BitVec 32 := 6#32
  let v505 : BitVec 32 := Scalar.addi v504 c6_i32
  let c0_i32_347 : BitVec 32 := 0#32
  ![v505.toNat, 0]
def k0_off1736 (v507 : BitVec 32) : Fin 2 → Nat :=
  let c0_i32_348 : BitVec 32 := 0#32
  ![v507.toNat, 0]

def k0_chk709 (v507 : BitVec 32) : Prop :=
  (∀ a, (k0_off1736 v507) a + S1x64.size a ≤ S1000000x64.size a)
instance k0_chk709.dec : ∀ (v507 : BitVec 32), Decidable (k0_chk709 v507) := fun v507 => decidable_of_iff' _ (Iff.of_eq (k0_chk709.eq_1 v507))
theorem k0_off1736_inb : ∀ (v507 : BitVec 32) (k0_hw709 : k0_chk709 v507), ∀ a, (k0_off1736 v507) a + S1x64.size a ≤ S1000000x64.size a := fun v507 k0_hw709 => k0_hw709

def k0_off1737 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_346 : BitVec 32 := 16#32
  let v504 : BitVec 32 := Scalar.muli arg13 c16_i32_346
  let c6_i32 : BitVec 32 := 6#32
  let v505 : BitVec 32 := Scalar.addi v504 c6_i32
  let c0_i32_349 : BitVec 32 := 0#32
  ![v505.toNat, 0]
def k0_off1738 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_346 : BitVec 32 := 16#32
  let v504 : BitVec 32 := Scalar.muli arg13 c16_i32_346
  let c6_i32 : BitVec 32 := 6#32
  let v505 : BitVec 32 := Scalar.addi v504 c6_i32
  let c5_i32_351 : BitVec 32 := 5#32
  let v518 : BitVec 32 := Scalar.muli v505 c5_i32_351
  let c0_i32_352 : BitVec 32 := 0#32
  let v519 : BitVec 32 := Scalar.addi v518 c0_i32_352
  let c0_i32_353 : BitVec 32 := 0#32
  ![v519.toNat, 0]
def k0_off1739 (v517 : BitVec 32) : Fin 2 → Nat :=
  let c0_i32_354 : BitVec 32 := 0#32
  ![v517.toNat, 0]

def k0_chk710 (v517 : BitVec 32) : Prop :=
  (∀ a, (k0_off1739 v517) a + S1x64.size a ≤ S1000000x64.size a)
instance k0_chk710.dec : ∀ (v517 : BitVec 32), Decidable (k0_chk710 v517) := fun v517 => decidable_of_iff' _ (Iff.of_eq (k0_chk710.eq_1 v517))
theorem k0_off1739_inb : ∀ (v517 : BitVec 32) (k0_hw710 : k0_chk710 v517), ∀ a, (k0_off1739 v517) a + S1x64.size a ≤ S1000000x64.size a := fun v517 k0_hw710 => k0_hw710

def k0_off1740 (k0_t22 : Fin k0_t22_loop.trips) (c0_i32_352 : BitVec 32) : Fin 2 → Nat :=
  let c0_i32_104 : BitVec 32 := 0#32
  let c1_i32_106 : BitVec 32 := 1#32
  let arg13 : BitVec 32 := Scf.iv c0_i32_104 c1_i32_106 k0_t22
  let c16_i32_346 : BitVec 32 := 16#32
  let v504 : BitVec 32 := Scalar.muli arg13 c16_i32_346
  let c6_i32 : BitVec 32 := 6#32
  let v505 : BitVec 32 := Scalar.addi v504 c6_i32
  let c5_i32_351 : BitVec 32 := 5#32
  let v518 : BitVec 32 := Scalar.muli v505 c5_i32_351
  let v519 : BitVec 32 := Scalar.addi v518 c0_i32_352
  let c0_i32_355 : BitVec 32 := 0#32
  ![v519.toNat, 0]
def k0_off1741 (v529 : BitVec 32) : Fin 2 → Nat :=
  let c0_i32_360 : BitVec 32 := 0#32
  ![v529.toNat, 0]

def k0_chk711 (v529 : BitVec 32) : Prop :=
  (∀ a, (k0_off1741 v529) a + S1x64.size a ≤ S1000000x64.size a)
instance k0_chk711.dec : ∀ (v529 : BitVec 32), Decidable (k0_chk711 v529) := fun v529 => decidable_of_iff' _ (Iff.of_eq (k0_chk711.eq_1 v529))
theorem k0_off1741_inb : ∀ (v529 : BitVec 32) (k0_hw711 : k0_chk711 v529), ∀ a, (k0_off1741 v529) a + S1x64.size a ≤ S1000000x64.size a := fun v529 k0_hw711 => k0_hw711

def k0_off1742 (k0_t22 : Fin k0_t22_loop.trips) (c1_i32_358 : BitVec 32) : Fin 2 → Nat :=
  let c0_i32_104 : BitVec 32 := 0#32
  let c1_i32_106 : BitVec 32 := 1#32
  let arg13 : BitVec 32 := Scf.iv c0_i32_104 c1_i32_106 k0_t22
  let c16_i32_346 : BitVec 32 := 16#32
  let v504 : BitVec 32 := Scalar.muli arg13 c16_i32_346
  let c6_i32 : BitVec 32 := 6#32
  let v505 : BitVec 32 := Scalar.addi v504 c6_i32
  let c5_i32_357 : BitVec 32 := 5#32
  let v530 : BitVec 32 := Scalar.muli v505 c5_i32_357
  let v531 : BitVec 32 := Scalar.addi v530 c1_i32_358
  let c0_i32_361 : BitVec 32 := 0#32
  ![v531.toNat, 0]
def k0_off1743 (v541 : BitVec 32) : Fin 2 → Nat :=
  let c0_i32_366 : BitVec 32 := 0#32
  ![v541.toNat, 0]

def k0_chk712 (v541 : BitVec 32) : Prop :=
  (∀ a, (k0_off1743 v541) a + S1x64.size a ≤ S1000000x64.size a)
instance k0_chk712.dec : ∀ (v541 : BitVec 32), Decidable (k0_chk712 v541) := fun v541 => decidable_of_iff' _ (Iff.of_eq (k0_chk712.eq_1 v541))
theorem k0_off1743_inb : ∀ (v541 : BitVec 32) (k0_hw712 : k0_chk712 v541), ∀ a, (k0_off1743 v541) a + S1x64.size a ≤ S1000000x64.size a := fun v541 k0_hw712 => k0_hw712

def k0_off1744 (k0_t22 : Fin k0_t22_loop.trips) (c2_i32_364 : BitVec 32) : Fin 2 → Nat :=
  let c0_i32_104 : BitVec 32 := 0#32
  let c1_i32_106 : BitVec 32 := 1#32
  let arg13 : BitVec 32 := Scf.iv c0_i32_104 c1_i32_106 k0_t22
  let c16_i32_346 : BitVec 32 := 16#32
  let v504 : BitVec 32 := Scalar.muli arg13 c16_i32_346
  let c6_i32 : BitVec 32 := 6#32
  let v505 : BitVec 32 := Scalar.addi v504 c6_i32
  let c5_i32_363 : BitVec 32 := 5#32
  let v542 : BitVec 32 := Scalar.muli v505 c5_i32_363
  let v543 : BitVec 32 := Scalar.addi v542 c2_i32_364
  let c0_i32_367 : BitVec 32 := 0#32
  ![v543.toNat, 0]
def k0_off1745 (v553 : BitVec 32) : Fin 2 → Nat :=
  let c0_i32_372 : BitVec 32 := 0#32
  ![v553.toNat, 0]

def k0_chk713 (v553 : BitVec 32) : Prop :=
  (∀ a, (k0_off1745 v553) a + S1x64.size a ≤ S1000000x64.size a)
instance k0_chk713.dec : ∀ (v553 : BitVec 32), Decidable (k0_chk713 v553) := fun v553 => decidable_of_iff' _ (Iff.of_eq (k0_chk713.eq_1 v553))
theorem k0_off1745_inb : ∀ (v553 : BitVec 32) (k0_hw713 : k0_chk713 v553), ∀ a, (k0_off1745 v553) a + S1x64.size a ≤ S1000000x64.size a := fun v553 k0_hw713 => k0_hw713

def k0_off1746 (k0_t22 : Fin k0_t22_loop.trips) (c3_i32_370 : BitVec 32) : Fin 2 → Nat :=
  let c0_i32_104 : BitVec 32 := 0#32
  let c1_i32_106 : BitVec 32 := 1#32
  let arg13 : BitVec 32 := Scf.iv c0_i32_104 c1_i32_106 k0_t22
  let c16_i32_346 : BitVec 32 := 16#32
  let v504 : BitVec 32 := Scalar.muli arg13 c16_i32_346
  let c6_i32 : BitVec 32 := 6#32
  let v505 : BitVec 32 := Scalar.addi v504 c6_i32
  let c5_i32_369 : BitVec 32 := 5#32
  let v554 : BitVec 32 := Scalar.muli v505 c5_i32_369
  let v555 : BitVec 32 := Scalar.addi v554 c3_i32_370
  let c0_i32_373 : BitVec 32 := 0#32
  ![v555.toNat, 0]
def k0_off1747 (v565 : BitVec 32) : Fin 2 → Nat :=
  let c0_i32_378 : BitVec 32 := 0#32
  ![v565.toNat, 0]

def k0_chk714 (v565 : BitVec 32) : Prop :=
  (∀ a, (k0_off1747 v565) a + S1x64.size a ≤ S1000000x64.size a)
instance k0_chk714.dec : ∀ (v565 : BitVec 32), Decidable (k0_chk714 v565) := fun v565 => decidable_of_iff' _ (Iff.of_eq (k0_chk714.eq_1 v565))
theorem k0_off1747_inb : ∀ (v565 : BitVec 32) (k0_hw714 : k0_chk714 v565), ∀ a, (k0_off1747 v565) a + S1x64.size a ≤ S1000000x64.size a := fun v565 k0_hw714 => k0_hw714

def k0_off1748 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_346 : BitVec 32 := 16#32
  let v504 : BitVec 32 := Scalar.muli arg13 c16_i32_346
  let c6_i32 : BitVec 32 := 6#32
  let v505 : BitVec 32 := Scalar.addi v504 c6_i32
  let c5_i32_375 : BitVec 32 := 5#32
  let v566 : BitVec 32 := Scalar.muli v505 c5_i32_375
  let c4_i32_376 : BitVec 32 := 4#32
  let v567 : BitVec 32 := Scalar.addi v566 c4_i32_376
  let c0_i32_379 : BitVec 32 := 0#32
  ![v567.toNat, 0]
def k0_off1749 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_381 : BitVec 32 := 16#32
  let v576 : BitVec 32 := Scalar.muli arg13 c16_i32_381
  let c7_i32 : BitVec 32 := 7#32
  let v577 : BitVec 32 := Scalar.addi v576 c7_i32
  let c0_i32_382 : BitVec 32 := 0#32
  ![v577.toNat, 0]
def k0_off1750 (v579 : BitVec 32) : Fin 2 → Nat :=
  let c0_i32_383 : BitVec 32 := 0#32
  ![v579.toNat, 0]

def k0_chk715 (v579 : BitVec 32) : Prop :=
  (∀ a, (k0_off1750 v579) a + S1x64.size a ≤ S1000000x64.size a)
instance k0_chk715.dec : ∀ (v579 : BitVec 32), Decidable (k0_chk715 v579) := fun v579 => decidable_of_iff' _ (Iff.of_eq (k0_chk715.eq_1 v579))
theorem k0_off1750_inb : ∀ (v579 : BitVec 32) (k0_hw715 : k0_chk715 v579), ∀ a, (k0_off1750 v579) a + S1x64.size a ≤ S1000000x64.size a := fun v579 k0_hw715 => k0_hw715

def k0_off1751 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_381 : BitVec 32 := 16#32
  let v576 : BitVec 32 := Scalar.muli arg13 c16_i32_381
  let c7_i32 : BitVec 32 := 7#32
  let v577 : BitVec 32 := Scalar.addi v576 c7_i32
  let c0_i32_384 : BitVec 32 := 0#32
  ![v577.toNat, 0]
def k0_off1752 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_381 : BitVec 32 := 16#32
  let v576 : BitVec 32 := Scalar.muli arg13 c16_i32_381
  let c7_i32 : BitVec 32 := 7#32
  let v577 : BitVec 32 := Scalar.addi v576 c7_i32
  let c5_i32_386 : BitVec 32 := 5#32
  let v590 : BitVec 32 := Scalar.muli v577 c5_i32_386
  let c0_i32_387 : BitVec 32 := 0#32
  let v591 : BitVec 32 := Scalar.addi v590 c0_i32_387
  let c0_i32_388 : BitVec 32 := 0#32
  ![v591.toNat, 0]
def k0_off1753 (v589 : BitVec 32) : Fin 2 → Nat :=
  let c0_i32_389 : BitVec 32 := 0#32
  ![v589.toNat, 0]

def k0_chk716 (v589 : BitVec 32) : Prop :=
  (∀ a, (k0_off1753 v589) a + S1x64.size a ≤ S1000000x64.size a)
instance k0_chk716.dec : ∀ (v589 : BitVec 32), Decidable (k0_chk716 v589) := fun v589 => decidable_of_iff' _ (Iff.of_eq (k0_chk716.eq_1 v589))
theorem k0_off1753_inb : ∀ (v589 : BitVec 32) (k0_hw716 : k0_chk716 v589), ∀ a, (k0_off1753 v589) a + S1x64.size a ≤ S1000000x64.size a := fun v589 k0_hw716 => k0_hw716

def k0_off1754 (k0_t22 : Fin k0_t22_loop.trips) (c0_i32_387 : BitVec 32) : Fin 2 → Nat :=
  let c0_i32_104 : BitVec 32 := 0#32
  let c1_i32_106 : BitVec 32 := 1#32
  let arg13 : BitVec 32 := Scf.iv c0_i32_104 c1_i32_106 k0_t22
  let c16_i32_381 : BitVec 32 := 16#32
  let v576 : BitVec 32 := Scalar.muli arg13 c16_i32_381
  let c7_i32 : BitVec 32 := 7#32
  let v577 : BitVec 32 := Scalar.addi v576 c7_i32
  let c5_i32_386 : BitVec 32 := 5#32
  let v590 : BitVec 32 := Scalar.muli v577 c5_i32_386
  let v591 : BitVec 32 := Scalar.addi v590 c0_i32_387
  let c0_i32_390 : BitVec 32 := 0#32
  ![v591.toNat, 0]
def k0_off1755 (v601 : BitVec 32) : Fin 2 → Nat :=
  let c0_i32_395 : BitVec 32 := 0#32
  ![v601.toNat, 0]

def k0_chk717 (v601 : BitVec 32) : Prop :=
  (∀ a, (k0_off1755 v601) a + S1x64.size a ≤ S1000000x64.size a)
instance k0_chk717.dec : ∀ (v601 : BitVec 32), Decidable (k0_chk717 v601) := fun v601 => decidable_of_iff' _ (Iff.of_eq (k0_chk717.eq_1 v601))
theorem k0_off1755_inb : ∀ (v601 : BitVec 32) (k0_hw717 : k0_chk717 v601), ∀ a, (k0_off1755 v601) a + S1x64.size a ≤ S1000000x64.size a := fun v601 k0_hw717 => k0_hw717

def k0_off1756 (k0_t22 : Fin k0_t22_loop.trips) (c1_i32_393 : BitVec 32) : Fin 2 → Nat :=
  let c0_i32_104 : BitVec 32 := 0#32
  let c1_i32_106 : BitVec 32 := 1#32
  let arg13 : BitVec 32 := Scf.iv c0_i32_104 c1_i32_106 k0_t22
  let c16_i32_381 : BitVec 32 := 16#32
  let v576 : BitVec 32 := Scalar.muli arg13 c16_i32_381
  let c7_i32 : BitVec 32 := 7#32
  let v577 : BitVec 32 := Scalar.addi v576 c7_i32
  let c5_i32_392 : BitVec 32 := 5#32
  let v602 : BitVec 32 := Scalar.muli v577 c5_i32_392
  let v603 : BitVec 32 := Scalar.addi v602 c1_i32_393
  let c0_i32_396 : BitVec 32 := 0#32
  ![v603.toNat, 0]
def k0_off1757 (v613 : BitVec 32) : Fin 2 → Nat :=
  let c0_i32_401 : BitVec 32 := 0#32
  ![v613.toNat, 0]

def k0_chk718 (v613 : BitVec 32) : Prop :=
  (∀ a, (k0_off1757 v613) a + S1x64.size a ≤ S1000000x64.size a)
instance k0_chk718.dec : ∀ (v613 : BitVec 32), Decidable (k0_chk718 v613) := fun v613 => decidable_of_iff' _ (Iff.of_eq (k0_chk718.eq_1 v613))
theorem k0_off1757_inb : ∀ (v613 : BitVec 32) (k0_hw718 : k0_chk718 v613), ∀ a, (k0_off1757 v613) a + S1x64.size a ≤ S1000000x64.size a := fun v613 k0_hw718 => k0_hw718

def k0_off1758 (k0_t22 : Fin k0_t22_loop.trips) (c2_i32_399 : BitVec 32) : Fin 2 → Nat :=
  let c0_i32_104 : BitVec 32 := 0#32
  let c1_i32_106 : BitVec 32 := 1#32
  let arg13 : BitVec 32 := Scf.iv c0_i32_104 c1_i32_106 k0_t22
  let c16_i32_381 : BitVec 32 := 16#32
  let v576 : BitVec 32 := Scalar.muli arg13 c16_i32_381
  let c7_i32 : BitVec 32 := 7#32
  let v577 : BitVec 32 := Scalar.addi v576 c7_i32
  let c5_i32_398 : BitVec 32 := 5#32
  let v614 : BitVec 32 := Scalar.muli v577 c5_i32_398
  let v615 : BitVec 32 := Scalar.addi v614 c2_i32_399
  let c0_i32_402 : BitVec 32 := 0#32
  ![v615.toNat, 0]
def k0_off1759 (v625 : BitVec 32) : Fin 2 → Nat :=
  let c0_i32_407 : BitVec 32 := 0#32
  ![v625.toNat, 0]

def k0_chk719 (v625 : BitVec 32) : Prop :=
  (∀ a, (k0_off1759 v625) a + S1x64.size a ≤ S1000000x64.size a)
instance k0_chk719.dec : ∀ (v625 : BitVec 32), Decidable (k0_chk719 v625) := fun v625 => decidable_of_iff' _ (Iff.of_eq (k0_chk719.eq_1 v625))
theorem k0_off1759_inb : ∀ (v625 : BitVec 32) (k0_hw719 : k0_chk719 v625), ∀ a, (k0_off1759 v625) a + S1x64.size a ≤ S1000000x64.size a := fun v625 k0_hw719 => k0_hw719

def k0_off1760 (k0_t22 : Fin k0_t22_loop.trips) (c3_i32_405 : BitVec 32) : Fin 2 → Nat :=
  let c0_i32_104 : BitVec 32 := 0#32
  let c1_i32_106 : BitVec 32 := 1#32
  let arg13 : BitVec 32 := Scf.iv c0_i32_104 c1_i32_106 k0_t22
  let c16_i32_381 : BitVec 32 := 16#32
  let v576 : BitVec 32 := Scalar.muli arg13 c16_i32_381
  let c7_i32 : BitVec 32 := 7#32
  let v577 : BitVec 32 := Scalar.addi v576 c7_i32
  let c5_i32_404 : BitVec 32 := 5#32
  let v626 : BitVec 32 := Scalar.muli v577 c5_i32_404
  let v627 : BitVec 32 := Scalar.addi v626 c3_i32_405
  let c0_i32_408 : BitVec 32 := 0#32
  ![v627.toNat, 0]
def k0_off1761 (v637 : BitVec 32) : Fin 2 → Nat :=
  let c0_i32_413 : BitVec 32 := 0#32
  ![v637.toNat, 0]

def k0_chk720 (v637 : BitVec 32) : Prop :=
  (∀ a, (k0_off1761 v637) a + S1x64.size a ≤ S1000000x64.size a)
instance k0_chk720.dec : ∀ (v637 : BitVec 32), Decidable (k0_chk720 v637) := fun v637 => decidable_of_iff' _ (Iff.of_eq (k0_chk720.eq_1 v637))
theorem k0_off1761_inb : ∀ (v637 : BitVec 32) (k0_hw720 : k0_chk720 v637), ∀ a, (k0_off1761 v637) a + S1x64.size a ≤ S1000000x64.size a := fun v637 k0_hw720 => k0_hw720

def k0_off1762 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_381 : BitVec 32 := 16#32
  let v576 : BitVec 32 := Scalar.muli arg13 c16_i32_381
  let c7_i32 : BitVec 32 := 7#32
  let v577 : BitVec 32 := Scalar.addi v576 c7_i32
  let c5_i32_410 : BitVec 32 := 5#32
  let v638 : BitVec 32 := Scalar.muli v577 c5_i32_410
  let c4_i32_411 : BitVec 32 := 4#32
  let v639 : BitVec 32 := Scalar.addi v638 c4_i32_411
  let c0_i32_414 : BitVec 32 := 0#32
  ![v639.toNat, 0]
def k0_off1763 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_416 : BitVec 32 := 16#32
  let v648 : BitVec 32 := Scalar.muli arg13 c16_i32_416
  let c8_i32 : BitVec 32 := 8#32
  let v649 : BitVec 32 := Scalar.addi v648 c8_i32
  let c0_i32_417 : BitVec 32 := 0#32
  ![v649.toNat, 0]
def k0_off1764 (v651 : BitVec 32) : Fin 2 → Nat :=
  let c0_i32_418 : BitVec 32 := 0#32
  ![v651.toNat, 0]

def k0_chk721 (v651 : BitVec 32) : Prop :=
  (∀ a, (k0_off1764 v651) a + S1x64.size a ≤ S1000000x64.size a)
instance k0_chk721.dec : ∀ (v651 : BitVec 32), Decidable (k0_chk721 v651) := fun v651 => decidable_of_iff' _ (Iff.of_eq (k0_chk721.eq_1 v651))
theorem k0_off1764_inb : ∀ (v651 : BitVec 32) (k0_hw721 : k0_chk721 v651), ∀ a, (k0_off1764 v651) a + S1x64.size a ≤ S1000000x64.size a := fun v651 k0_hw721 => k0_hw721

def k0_off1765 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_416 : BitVec 32 := 16#32
  let v648 : BitVec 32 := Scalar.muli arg13 c16_i32_416
  let c8_i32 : BitVec 32 := 8#32
  let v649 : BitVec 32 := Scalar.addi v648 c8_i32
  let c0_i32_419 : BitVec 32 := 0#32
  ![v649.toNat, 0]
def k0_off1766 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_416 : BitVec 32 := 16#32
  let v648 : BitVec 32 := Scalar.muli arg13 c16_i32_416
  let c8_i32 : BitVec 32 := 8#32
  let v649 : BitVec 32 := Scalar.addi v648 c8_i32
  let c5_i32_421 : BitVec 32 := 5#32
  let v662 : BitVec 32 := Scalar.muli v649 c5_i32_421
  let c0_i32_422 : BitVec 32 := 0#32
  let v663 : BitVec 32 := Scalar.addi v662 c0_i32_422
  let c0_i32_423 : BitVec 32 := 0#32
  ![v663.toNat, 0]
def k0_off1767 (v661 : BitVec 32) : Fin 2 → Nat :=
  let c0_i32_424 : BitVec 32 := 0#32
  ![v661.toNat, 0]

def k0_chk722 (v661 : BitVec 32) : Prop :=
  (∀ a, (k0_off1767 v661) a + S1x64.size a ≤ S1000000x64.size a)
instance k0_chk722.dec : ∀ (v661 : BitVec 32), Decidable (k0_chk722 v661) := fun v661 => decidable_of_iff' _ (Iff.of_eq (k0_chk722.eq_1 v661))
theorem k0_off1767_inb : ∀ (v661 : BitVec 32) (k0_hw722 : k0_chk722 v661), ∀ a, (k0_off1767 v661) a + S1x64.size a ≤ S1000000x64.size a := fun v661 k0_hw722 => k0_hw722

def k0_off1768 (k0_t22 : Fin k0_t22_loop.trips) (c0_i32_422 : BitVec 32) : Fin 2 → Nat :=
  let c0_i32_104 : BitVec 32 := 0#32
  let c1_i32_106 : BitVec 32 := 1#32
  let arg13 : BitVec 32 := Scf.iv c0_i32_104 c1_i32_106 k0_t22
  let c16_i32_416 : BitVec 32 := 16#32
  let v648 : BitVec 32 := Scalar.muli arg13 c16_i32_416
  let c8_i32 : BitVec 32 := 8#32
  let v649 : BitVec 32 := Scalar.addi v648 c8_i32
  let c5_i32_421 : BitVec 32 := 5#32
  let v662 : BitVec 32 := Scalar.muli v649 c5_i32_421
  let v663 : BitVec 32 := Scalar.addi v662 c0_i32_422
  let c0_i32_425 : BitVec 32 := 0#32
  ![v663.toNat, 0]
def k0_off1769 (v673 : BitVec 32) : Fin 2 → Nat :=
  let c0_i32_430 : BitVec 32 := 0#32
  ![v673.toNat, 0]

def k0_chk723 (v673 : BitVec 32) : Prop :=
  (∀ a, (k0_off1769 v673) a + S1x64.size a ≤ S1000000x64.size a)
instance k0_chk723.dec : ∀ (v673 : BitVec 32), Decidable (k0_chk723 v673) := fun v673 => decidable_of_iff' _ (Iff.of_eq (k0_chk723.eq_1 v673))
theorem k0_off1769_inb : ∀ (v673 : BitVec 32) (k0_hw723 : k0_chk723 v673), ∀ a, (k0_off1769 v673) a + S1x64.size a ≤ S1000000x64.size a := fun v673 k0_hw723 => k0_hw723

def k0_off1770 (k0_t22 : Fin k0_t22_loop.trips) (c1_i32_428 : BitVec 32) : Fin 2 → Nat :=
  let c0_i32_104 : BitVec 32 := 0#32
  let c1_i32_106 : BitVec 32 := 1#32
  let arg13 : BitVec 32 := Scf.iv c0_i32_104 c1_i32_106 k0_t22
  let c16_i32_416 : BitVec 32 := 16#32
  let v648 : BitVec 32 := Scalar.muli arg13 c16_i32_416
  let c8_i32 : BitVec 32 := 8#32
  let v649 : BitVec 32 := Scalar.addi v648 c8_i32
  let c5_i32_427 : BitVec 32 := 5#32
  let v674 : BitVec 32 := Scalar.muli v649 c5_i32_427
  let v675 : BitVec 32 := Scalar.addi v674 c1_i32_428
  let c0_i32_431 : BitVec 32 := 0#32
  ![v675.toNat, 0]
def k0_off1771 (v685 : BitVec 32) : Fin 2 → Nat :=
  let c0_i32_436 : BitVec 32 := 0#32
  ![v685.toNat, 0]

def k0_chk724 (v685 : BitVec 32) : Prop :=
  (∀ a, (k0_off1771 v685) a + S1x64.size a ≤ S1000000x64.size a)
instance k0_chk724.dec : ∀ (v685 : BitVec 32), Decidable (k0_chk724 v685) := fun v685 => decidable_of_iff' _ (Iff.of_eq (k0_chk724.eq_1 v685))
theorem k0_off1771_inb : ∀ (v685 : BitVec 32) (k0_hw724 : k0_chk724 v685), ∀ a, (k0_off1771 v685) a + S1x64.size a ≤ S1000000x64.size a := fun v685 k0_hw724 => k0_hw724

def k0_off1772 (k0_t22 : Fin k0_t22_loop.trips) (c2_i32_434 : BitVec 32) : Fin 2 → Nat :=
  let c0_i32_104 : BitVec 32 := 0#32
  let c1_i32_106 : BitVec 32 := 1#32
  let arg13 : BitVec 32 := Scf.iv c0_i32_104 c1_i32_106 k0_t22
  let c16_i32_416 : BitVec 32 := 16#32
  let v648 : BitVec 32 := Scalar.muli arg13 c16_i32_416
  let c8_i32 : BitVec 32 := 8#32
  let v649 : BitVec 32 := Scalar.addi v648 c8_i32
  let c5_i32_433 : BitVec 32 := 5#32
  let v686 : BitVec 32 := Scalar.muli v649 c5_i32_433
  let v687 : BitVec 32 := Scalar.addi v686 c2_i32_434
  let c0_i32_437 : BitVec 32 := 0#32
  ![v687.toNat, 0]
def k0_off1773 (v697 : BitVec 32) : Fin 2 → Nat :=
  let c0_i32_442 : BitVec 32 := 0#32
  ![v697.toNat, 0]

def k0_chk725 (v697 : BitVec 32) : Prop :=
  (∀ a, (k0_off1773 v697) a + S1x64.size a ≤ S1000000x64.size a)
instance k0_chk725.dec : ∀ (v697 : BitVec 32), Decidable (k0_chk725 v697) := fun v697 => decidable_of_iff' _ (Iff.of_eq (k0_chk725.eq_1 v697))
theorem k0_off1773_inb : ∀ (v697 : BitVec 32) (k0_hw725 : k0_chk725 v697), ∀ a, (k0_off1773 v697) a + S1x64.size a ≤ S1000000x64.size a := fun v697 k0_hw725 => k0_hw725

def k0_off1774 (k0_t22 : Fin k0_t22_loop.trips) (c3_i32_440 : BitVec 32) : Fin 2 → Nat :=
  let c0_i32_104 : BitVec 32 := 0#32
  let c1_i32_106 : BitVec 32 := 1#32
  let arg13 : BitVec 32 := Scf.iv c0_i32_104 c1_i32_106 k0_t22
  let c16_i32_416 : BitVec 32 := 16#32
  let v648 : BitVec 32 := Scalar.muli arg13 c16_i32_416
  let c8_i32 : BitVec 32 := 8#32
  let v649 : BitVec 32 := Scalar.addi v648 c8_i32
  let c5_i32_439 : BitVec 32 := 5#32
  let v698 : BitVec 32 := Scalar.muli v649 c5_i32_439
  let v699 : BitVec 32 := Scalar.addi v698 c3_i32_440
  let c0_i32_443 : BitVec 32 := 0#32
  ![v699.toNat, 0]
def k0_off1775 (v709 : BitVec 32) : Fin 2 → Nat :=
  let c0_i32_448 : BitVec 32 := 0#32
  ![v709.toNat, 0]

def k0_chk726 (v709 : BitVec 32) : Prop :=
  (∀ a, (k0_off1775 v709) a + S1x64.size a ≤ S1000000x64.size a)
instance k0_chk726.dec : ∀ (v709 : BitVec 32), Decidable (k0_chk726 v709) := fun v709 => decidable_of_iff' _ (Iff.of_eq (k0_chk726.eq_1 v709))
theorem k0_off1775_inb : ∀ (v709 : BitVec 32) (k0_hw726 : k0_chk726 v709), ∀ a, (k0_off1775 v709) a + S1x64.size a ≤ S1000000x64.size a := fun v709 k0_hw726 => k0_hw726

def k0_off1776 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_416 : BitVec 32 := 16#32
  let v648 : BitVec 32 := Scalar.muli arg13 c16_i32_416
  let c8_i32 : BitVec 32 := 8#32
  let v649 : BitVec 32 := Scalar.addi v648 c8_i32
  let c5_i32_445 : BitVec 32 := 5#32
  let v710 : BitVec 32 := Scalar.muli v649 c5_i32_445
  let c4_i32_446 : BitVec 32 := 4#32
  let v711 : BitVec 32 := Scalar.addi v710 c4_i32_446
  let c0_i32_449 : BitVec 32 := 0#32
  ![v711.toNat, 0]
def k0_off1777 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_451 : BitVec 32 := 16#32
  let v720 : BitVec 32 := Scalar.muli arg13 c16_i32_451
  let c9_i32 : BitVec 32 := 9#32
  let v721 : BitVec 32 := Scalar.addi v720 c9_i32
  let c0_i32_452 : BitVec 32 := 0#32
  ![v721.toNat, 0]
def k0_off1778 (v723 : BitVec 32) : Fin 2 → Nat :=
  let c0_i32_453 : BitVec 32 := 0#32
  ![v723.toNat, 0]

def k0_chk727 (v723 : BitVec 32) : Prop :=
  (∀ a, (k0_off1778 v723) a + S1x64.size a ≤ S1000000x64.size a)
instance k0_chk727.dec : ∀ (v723 : BitVec 32), Decidable (k0_chk727 v723) := fun v723 => decidable_of_iff' _ (Iff.of_eq (k0_chk727.eq_1 v723))
theorem k0_off1778_inb : ∀ (v723 : BitVec 32) (k0_hw727 : k0_chk727 v723), ∀ a, (k0_off1778 v723) a + S1x64.size a ≤ S1000000x64.size a := fun v723 k0_hw727 => k0_hw727

def k0_off1779 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_451 : BitVec 32 := 16#32
  let v720 : BitVec 32 := Scalar.muli arg13 c16_i32_451
  let c9_i32 : BitVec 32 := 9#32
  let v721 : BitVec 32 := Scalar.addi v720 c9_i32
  let c0_i32_454 : BitVec 32 := 0#32
  ![v721.toNat, 0]
def k0_off1780 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_451 : BitVec 32 := 16#32
  let v720 : BitVec 32 := Scalar.muli arg13 c16_i32_451
  let c9_i32 : BitVec 32 := 9#32
  let v721 : BitVec 32 := Scalar.addi v720 c9_i32
  let c5_i32_456 : BitVec 32 := 5#32
  let v734 : BitVec 32 := Scalar.muli v721 c5_i32_456
  let c0_i32_457 : BitVec 32 := 0#32
  let v735 : BitVec 32 := Scalar.addi v734 c0_i32_457
  let c0_i32_458 : BitVec 32 := 0#32
  ![v735.toNat, 0]
def k0_off1781 (v733 : BitVec 32) : Fin 2 → Nat :=
  let c0_i32_459 : BitVec 32 := 0#32
  ![v733.toNat, 0]

def k0_chk728 (v733 : BitVec 32) : Prop :=
  (∀ a, (k0_off1781 v733) a + S1x64.size a ≤ S1000000x64.size a)
instance k0_chk728.dec : ∀ (v733 : BitVec 32), Decidable (k0_chk728 v733) := fun v733 => decidable_of_iff' _ (Iff.of_eq (k0_chk728.eq_1 v733))
theorem k0_off1781_inb : ∀ (v733 : BitVec 32) (k0_hw728 : k0_chk728 v733), ∀ a, (k0_off1781 v733) a + S1x64.size a ≤ S1000000x64.size a := fun v733 k0_hw728 => k0_hw728

def k0_off1782 (k0_t22 : Fin k0_t22_loop.trips) (c0_i32_457 : BitVec 32) : Fin 2 → Nat :=
  let c0_i32_104 : BitVec 32 := 0#32
  let c1_i32_106 : BitVec 32 := 1#32
  let arg13 : BitVec 32 := Scf.iv c0_i32_104 c1_i32_106 k0_t22
  let c16_i32_451 : BitVec 32 := 16#32
  let v720 : BitVec 32 := Scalar.muli arg13 c16_i32_451
  let c9_i32 : BitVec 32 := 9#32
  let v721 : BitVec 32 := Scalar.addi v720 c9_i32
  let c5_i32_456 : BitVec 32 := 5#32
  let v734 : BitVec 32 := Scalar.muli v721 c5_i32_456
  let v735 : BitVec 32 := Scalar.addi v734 c0_i32_457
  let c0_i32_460 : BitVec 32 := 0#32
  ![v735.toNat, 0]
def k0_off1783 (v745 : BitVec 32) : Fin 2 → Nat :=
  let c0_i32_465 : BitVec 32 := 0#32
  ![v745.toNat, 0]

def k0_chk729 (v745 : BitVec 32) : Prop :=
  (∀ a, (k0_off1783 v745) a + S1x64.size a ≤ S1000000x64.size a)
instance k0_chk729.dec : ∀ (v745 : BitVec 32), Decidable (k0_chk729 v745) := fun v745 => decidable_of_iff' _ (Iff.of_eq (k0_chk729.eq_1 v745))
theorem k0_off1783_inb : ∀ (v745 : BitVec 32) (k0_hw729 : k0_chk729 v745), ∀ a, (k0_off1783 v745) a + S1x64.size a ≤ S1000000x64.size a := fun v745 k0_hw729 => k0_hw729

def k0_off1784 (k0_t22 : Fin k0_t22_loop.trips) (c1_i32_463 : BitVec 32) : Fin 2 → Nat :=
  let c0_i32_104 : BitVec 32 := 0#32
  let c1_i32_106 : BitVec 32 := 1#32
  let arg13 : BitVec 32 := Scf.iv c0_i32_104 c1_i32_106 k0_t22
  let c16_i32_451 : BitVec 32 := 16#32
  let v720 : BitVec 32 := Scalar.muli arg13 c16_i32_451
  let c9_i32 : BitVec 32 := 9#32
  let v721 : BitVec 32 := Scalar.addi v720 c9_i32
  let c5_i32_462 : BitVec 32 := 5#32
  let v746 : BitVec 32 := Scalar.muli v721 c5_i32_462
  let v747 : BitVec 32 := Scalar.addi v746 c1_i32_463
  let c0_i32_466 : BitVec 32 := 0#32
  ![v747.toNat, 0]
def k0_off1785 (v757 : BitVec 32) : Fin 2 → Nat :=
  let c0_i32_471 : BitVec 32 := 0#32
  ![v757.toNat, 0]

def k0_chk730 (v757 : BitVec 32) : Prop :=
  (∀ a, (k0_off1785 v757) a + S1x64.size a ≤ S1000000x64.size a)
instance k0_chk730.dec : ∀ (v757 : BitVec 32), Decidable (k0_chk730 v757) := fun v757 => decidable_of_iff' _ (Iff.of_eq (k0_chk730.eq_1 v757))
theorem k0_off1785_inb : ∀ (v757 : BitVec 32) (k0_hw730 : k0_chk730 v757), ∀ a, (k0_off1785 v757) a + S1x64.size a ≤ S1000000x64.size a := fun v757 k0_hw730 => k0_hw730

def k0_off1786 (k0_t22 : Fin k0_t22_loop.trips) (c2_i32_469 : BitVec 32) : Fin 2 → Nat :=
  let c0_i32_104 : BitVec 32 := 0#32
  let c1_i32_106 : BitVec 32 := 1#32
  let arg13 : BitVec 32 := Scf.iv c0_i32_104 c1_i32_106 k0_t22
  let c16_i32_451 : BitVec 32 := 16#32
  let v720 : BitVec 32 := Scalar.muli arg13 c16_i32_451
  let c9_i32 : BitVec 32 := 9#32
  let v721 : BitVec 32 := Scalar.addi v720 c9_i32
  let c5_i32_468 : BitVec 32 := 5#32
  let v758 : BitVec 32 := Scalar.muli v721 c5_i32_468
  let v759 : BitVec 32 := Scalar.addi v758 c2_i32_469
  let c0_i32_472 : BitVec 32 := 0#32
  ![v759.toNat, 0]
def k0_off1787 (v769 : BitVec 32) : Fin 2 → Nat :=
  let c0_i32_477 : BitVec 32 := 0#32
  ![v769.toNat, 0]

def k0_chk731 (v769 : BitVec 32) : Prop :=
  (∀ a, (k0_off1787 v769) a + S1x64.size a ≤ S1000000x64.size a)
instance k0_chk731.dec : ∀ (v769 : BitVec 32), Decidable (k0_chk731 v769) := fun v769 => decidable_of_iff' _ (Iff.of_eq (k0_chk731.eq_1 v769))
theorem k0_off1787_inb : ∀ (v769 : BitVec 32) (k0_hw731 : k0_chk731 v769), ∀ a, (k0_off1787 v769) a + S1x64.size a ≤ S1000000x64.size a := fun v769 k0_hw731 => k0_hw731

def k0_off1788 (k0_t22 : Fin k0_t22_loop.trips) (c3_i32_475 : BitVec 32) : Fin 2 → Nat :=
  let c0_i32_104 : BitVec 32 := 0#32
  let c1_i32_106 : BitVec 32 := 1#32
  let arg13 : BitVec 32 := Scf.iv c0_i32_104 c1_i32_106 k0_t22
  let c16_i32_451 : BitVec 32 := 16#32
  let v720 : BitVec 32 := Scalar.muli arg13 c16_i32_451
  let c9_i32 : BitVec 32 := 9#32
  let v721 : BitVec 32 := Scalar.addi v720 c9_i32
  let c5_i32_474 : BitVec 32 := 5#32
  let v770 : BitVec 32 := Scalar.muli v721 c5_i32_474
  let v771 : BitVec 32 := Scalar.addi v770 c3_i32_475
  let c0_i32_478 : BitVec 32 := 0#32
  ![v771.toNat, 0]
def k0_off1789 (v781 : BitVec 32) : Fin 2 → Nat :=
  let c0_i32_483 : BitVec 32 := 0#32
  ![v781.toNat, 0]

def k0_chk732 (v781 : BitVec 32) : Prop :=
  (∀ a, (k0_off1789 v781) a + S1x64.size a ≤ S1000000x64.size a)
instance k0_chk732.dec : ∀ (v781 : BitVec 32), Decidable (k0_chk732 v781) := fun v781 => decidable_of_iff' _ (Iff.of_eq (k0_chk732.eq_1 v781))
theorem k0_off1789_inb : ∀ (v781 : BitVec 32) (k0_hw732 : k0_chk732 v781), ∀ a, (k0_off1789 v781) a + S1x64.size a ≤ S1000000x64.size a := fun v781 k0_hw732 => k0_hw732

def k0_off1790 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_451 : BitVec 32 := 16#32
  let v720 : BitVec 32 := Scalar.muli arg13 c16_i32_451
  let c9_i32 : BitVec 32 := 9#32
  let v721 : BitVec 32 := Scalar.addi v720 c9_i32
  let c5_i32_480 : BitVec 32 := 5#32
  let v782 : BitVec 32 := Scalar.muli v721 c5_i32_480
  let c4_i32_481 : BitVec 32 := 4#32
  let v783 : BitVec 32 := Scalar.addi v782 c4_i32_481
  let c0_i32_484 : BitVec 32 := 0#32
  ![v783.toNat, 0]
def k0_off1791 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_486 : BitVec 32 := 16#32
  let v792 : BitVec 32 := Scalar.muli arg13 c16_i32_486
  let c10_i32 : BitVec 32 := 10#32
  let v793 : BitVec 32 := Scalar.addi v792 c10_i32
  let c0_i32_487 : BitVec 32 := 0#32
  ![v793.toNat, 0]
def k0_off1792 (v795 : BitVec 32) : Fin 2 → Nat :=
  let c0_i32_488 : BitVec 32 := 0#32
  ![v795.toNat, 0]

def k0_chk733 (v795 : BitVec 32) : Prop :=
  (∀ a, (k0_off1792 v795) a + S1x64.size a ≤ S1000000x64.size a)
instance k0_chk733.dec : ∀ (v795 : BitVec 32), Decidable (k0_chk733 v795) := fun v795 => decidable_of_iff' _ (Iff.of_eq (k0_chk733.eq_1 v795))
theorem k0_off1792_inb : ∀ (v795 : BitVec 32) (k0_hw733 : k0_chk733 v795), ∀ a, (k0_off1792 v795) a + S1x64.size a ≤ S1000000x64.size a := fun v795 k0_hw733 => k0_hw733

def k0_off1793 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_486 : BitVec 32 := 16#32
  let v792 : BitVec 32 := Scalar.muli arg13 c16_i32_486
  let c10_i32 : BitVec 32 := 10#32
  let v793 : BitVec 32 := Scalar.addi v792 c10_i32
  let c0_i32_489 : BitVec 32 := 0#32
  ![v793.toNat, 0]
def k0_off1794 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_486 : BitVec 32 := 16#32
  let v792 : BitVec 32 := Scalar.muli arg13 c16_i32_486
  let c10_i32 : BitVec 32 := 10#32
  let v793 : BitVec 32 := Scalar.addi v792 c10_i32
  let c5_i32_491 : BitVec 32 := 5#32
  let v806 : BitVec 32 := Scalar.muli v793 c5_i32_491
  let c0_i32_492 : BitVec 32 := 0#32
  let v807 : BitVec 32 := Scalar.addi v806 c0_i32_492
  let c0_i32_493 : BitVec 32 := 0#32
  ![v807.toNat, 0]
def k0_off1795 (v805 : BitVec 32) : Fin 2 → Nat :=
  let c0_i32_494 : BitVec 32 := 0#32
  ![v805.toNat, 0]

def k0_chk734 (v805 : BitVec 32) : Prop :=
  (∀ a, (k0_off1795 v805) a + S1x64.size a ≤ S1000000x64.size a)
instance k0_chk734.dec : ∀ (v805 : BitVec 32), Decidable (k0_chk734 v805) := fun v805 => decidable_of_iff' _ (Iff.of_eq (k0_chk734.eq_1 v805))
theorem k0_off1795_inb : ∀ (v805 : BitVec 32) (k0_hw734 : k0_chk734 v805), ∀ a, (k0_off1795 v805) a + S1x64.size a ≤ S1000000x64.size a := fun v805 k0_hw734 => k0_hw734

def k0_off1796 (k0_t22 : Fin k0_t22_loop.trips) (c0_i32_492 : BitVec 32) : Fin 2 → Nat :=
  let c0_i32_104 : BitVec 32 := 0#32
  let c1_i32_106 : BitVec 32 := 1#32
  let arg13 : BitVec 32 := Scf.iv c0_i32_104 c1_i32_106 k0_t22
  let c16_i32_486 : BitVec 32 := 16#32
  let v792 : BitVec 32 := Scalar.muli arg13 c16_i32_486
  let c10_i32 : BitVec 32 := 10#32
  let v793 : BitVec 32 := Scalar.addi v792 c10_i32
  let c5_i32_491 : BitVec 32 := 5#32
  let v806 : BitVec 32 := Scalar.muli v793 c5_i32_491
  let v807 : BitVec 32 := Scalar.addi v806 c0_i32_492
  let c0_i32_495 : BitVec 32 := 0#32
  ![v807.toNat, 0]
def k0_off1797 (v817 : BitVec 32) : Fin 2 → Nat :=
  let c0_i32_500 : BitVec 32 := 0#32
  ![v817.toNat, 0]

def k0_chk735 (v817 : BitVec 32) : Prop :=
  (∀ a, (k0_off1797 v817) a + S1x64.size a ≤ S1000000x64.size a)
instance k0_chk735.dec : ∀ (v817 : BitVec 32), Decidable (k0_chk735 v817) := fun v817 => decidable_of_iff' _ (Iff.of_eq (k0_chk735.eq_1 v817))
theorem k0_off1797_inb : ∀ (v817 : BitVec 32) (k0_hw735 : k0_chk735 v817), ∀ a, (k0_off1797 v817) a + S1x64.size a ≤ S1000000x64.size a := fun v817 k0_hw735 => k0_hw735

def k0_off1798 (k0_t22 : Fin k0_t22_loop.trips) (c1_i32_498 : BitVec 32) : Fin 2 → Nat :=
  let c0_i32_104 : BitVec 32 := 0#32
  let c1_i32_106 : BitVec 32 := 1#32
  let arg13 : BitVec 32 := Scf.iv c0_i32_104 c1_i32_106 k0_t22
  let c16_i32_486 : BitVec 32 := 16#32
  let v792 : BitVec 32 := Scalar.muli arg13 c16_i32_486
  let c10_i32 : BitVec 32 := 10#32
  let v793 : BitVec 32 := Scalar.addi v792 c10_i32
  let c5_i32_497 : BitVec 32 := 5#32
  let v818 : BitVec 32 := Scalar.muli v793 c5_i32_497
  let v819 : BitVec 32 := Scalar.addi v818 c1_i32_498
  let c0_i32_501 : BitVec 32 := 0#32
  ![v819.toNat, 0]
def k0_off1799 (v829 : BitVec 32) : Fin 2 → Nat :=
  let c0_i32_506 : BitVec 32 := 0#32
  ![v829.toNat, 0]

def k0_chk736 (v829 : BitVec 32) : Prop :=
  (∀ a, (k0_off1799 v829) a + S1x64.size a ≤ S1000000x64.size a)
instance k0_chk736.dec : ∀ (v829 : BitVec 32), Decidable (k0_chk736 v829) := fun v829 => decidable_of_iff' _ (Iff.of_eq (k0_chk736.eq_1 v829))
theorem k0_off1799_inb : ∀ (v829 : BitVec 32) (k0_hw736 : k0_chk736 v829), ∀ a, (k0_off1799 v829) a + S1x64.size a ≤ S1000000x64.size a := fun v829 k0_hw736 => k0_hw736

def k0_off1800 (k0_t22 : Fin k0_t22_loop.trips) (c2_i32_504 : BitVec 32) : Fin 2 → Nat :=
  let c0_i32_104 : BitVec 32 := 0#32
  let c1_i32_106 : BitVec 32 := 1#32
  let arg13 : BitVec 32 := Scf.iv c0_i32_104 c1_i32_106 k0_t22
  let c16_i32_486 : BitVec 32 := 16#32
  let v792 : BitVec 32 := Scalar.muli arg13 c16_i32_486
  let c10_i32 : BitVec 32 := 10#32
  let v793 : BitVec 32 := Scalar.addi v792 c10_i32
  let c5_i32_503 : BitVec 32 := 5#32
  let v830 : BitVec 32 := Scalar.muli v793 c5_i32_503
  let v831 : BitVec 32 := Scalar.addi v830 c2_i32_504
  let c0_i32_507 : BitVec 32 := 0#32
  ![v831.toNat, 0]
def k0_off1801 (v841 : BitVec 32) : Fin 2 → Nat :=
  let c0_i32_512 : BitVec 32 := 0#32
  ![v841.toNat, 0]

def k0_chk737 (v841 : BitVec 32) : Prop :=
  (∀ a, (k0_off1801 v841) a + S1x64.size a ≤ S1000000x64.size a)
instance k0_chk737.dec : ∀ (v841 : BitVec 32), Decidable (k0_chk737 v841) := fun v841 => decidable_of_iff' _ (Iff.of_eq (k0_chk737.eq_1 v841))
theorem k0_off1801_inb : ∀ (v841 : BitVec 32) (k0_hw737 : k0_chk737 v841), ∀ a, (k0_off1801 v841) a + S1x64.size a ≤ S1000000x64.size a := fun v841 k0_hw737 => k0_hw737

def k0_off1802 (k0_t22 : Fin k0_t22_loop.trips) (c3_i32_510 : BitVec 32) : Fin 2 → Nat :=
  let c0_i32_104 : BitVec 32 := 0#32
  let c1_i32_106 : BitVec 32 := 1#32
  let arg13 : BitVec 32 := Scf.iv c0_i32_104 c1_i32_106 k0_t22
  let c16_i32_486 : BitVec 32 := 16#32
  let v792 : BitVec 32 := Scalar.muli arg13 c16_i32_486
  let c10_i32 : BitVec 32 := 10#32
  let v793 : BitVec 32 := Scalar.addi v792 c10_i32
  let c5_i32_509 : BitVec 32 := 5#32
  let v842 : BitVec 32 := Scalar.muli v793 c5_i32_509
  let v843 : BitVec 32 := Scalar.addi v842 c3_i32_510
  let c0_i32_513 : BitVec 32 := 0#32
  ![v843.toNat, 0]
def k0_off1803 (v853 : BitVec 32) : Fin 2 → Nat :=
  let c0_i32_518 : BitVec 32 := 0#32
  ![v853.toNat, 0]

def k0_chk738 (v853 : BitVec 32) : Prop :=
  (∀ a, (k0_off1803 v853) a + S1x64.size a ≤ S1000000x64.size a)
instance k0_chk738.dec : ∀ (v853 : BitVec 32), Decidable (k0_chk738 v853) := fun v853 => decidable_of_iff' _ (Iff.of_eq (k0_chk738.eq_1 v853))
theorem k0_off1803_inb : ∀ (v853 : BitVec 32) (k0_hw738 : k0_chk738 v853), ∀ a, (k0_off1803 v853) a + S1x64.size a ≤ S1000000x64.size a := fun v853 k0_hw738 => k0_hw738

def k0_off1804 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_486 : BitVec 32 := 16#32
  let v792 : BitVec 32 := Scalar.muli arg13 c16_i32_486
  let c10_i32 : BitVec 32 := 10#32
  let v793 : BitVec 32 := Scalar.addi v792 c10_i32
  let c5_i32_515 : BitVec 32 := 5#32
  let v854 : BitVec 32 := Scalar.muli v793 c5_i32_515
  let c4_i32_516 : BitVec 32 := 4#32
  let v855 : BitVec 32 := Scalar.addi v854 c4_i32_516
  let c0_i32_519 : BitVec 32 := 0#32
  ![v855.toNat, 0]
def k0_off1805 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_521 : BitVec 32 := 16#32
  let v864 : BitVec 32 := Scalar.muli arg13 c16_i32_521
  let c11_i32 : BitVec 32 := 11#32
  let v865 : BitVec 32 := Scalar.addi v864 c11_i32
  let c0_i32_522 : BitVec 32 := 0#32
  ![v865.toNat, 0]
def k0_off1806 (v867 : BitVec 32) : Fin 2 → Nat :=
  let c0_i32_523 : BitVec 32 := 0#32
  ![v867.toNat, 0]

def k0_chk739 (v867 : BitVec 32) : Prop :=
  (∀ a, (k0_off1806 v867) a + S1x64.size a ≤ S1000000x64.size a)
instance k0_chk739.dec : ∀ (v867 : BitVec 32), Decidable (k0_chk739 v867) := fun v867 => decidable_of_iff' _ (Iff.of_eq (k0_chk739.eq_1 v867))
theorem k0_off1806_inb : ∀ (v867 : BitVec 32) (k0_hw739 : k0_chk739 v867), ∀ a, (k0_off1806 v867) a + S1x64.size a ≤ S1000000x64.size a := fun v867 k0_hw739 => k0_hw739

def k0_off1807 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_521 : BitVec 32 := 16#32
  let v864 : BitVec 32 := Scalar.muli arg13 c16_i32_521
  let c11_i32 : BitVec 32 := 11#32
  let v865 : BitVec 32 := Scalar.addi v864 c11_i32
  let c0_i32_524 : BitVec 32 := 0#32
  ![v865.toNat, 0]
def k0_off1808 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_521 : BitVec 32 := 16#32
  let v864 : BitVec 32 := Scalar.muli arg13 c16_i32_521
  let c11_i32 : BitVec 32 := 11#32
  let v865 : BitVec 32 := Scalar.addi v864 c11_i32
  let c5_i32_526 : BitVec 32 := 5#32
  let v878 : BitVec 32 := Scalar.muli v865 c5_i32_526
  let c0_i32_527 : BitVec 32 := 0#32
  let v879 : BitVec 32 := Scalar.addi v878 c0_i32_527
  let c0_i32_528 : BitVec 32 := 0#32
  ![v879.toNat, 0]
def k0_off1809 (v877 : BitVec 32) : Fin 2 → Nat :=
  let c0_i32_529 : BitVec 32 := 0#32
  ![v877.toNat, 0]

def k0_chk740 (v877 : BitVec 32) : Prop :=
  (∀ a, (k0_off1809 v877) a + S1x64.size a ≤ S1000000x64.size a)
instance k0_chk740.dec : ∀ (v877 : BitVec 32), Decidable (k0_chk740 v877) := fun v877 => decidable_of_iff' _ (Iff.of_eq (k0_chk740.eq_1 v877))
theorem k0_off1809_inb : ∀ (v877 : BitVec 32) (k0_hw740 : k0_chk740 v877), ∀ a, (k0_off1809 v877) a + S1x64.size a ≤ S1000000x64.size a := fun v877 k0_hw740 => k0_hw740

def k0_off1810 (k0_t22 : Fin k0_t22_loop.trips) (c0_i32_527 : BitVec 32) : Fin 2 → Nat :=
  let c0_i32_104 : BitVec 32 := 0#32
  let c1_i32_106 : BitVec 32 := 1#32
  let arg13 : BitVec 32 := Scf.iv c0_i32_104 c1_i32_106 k0_t22
  let c16_i32_521 : BitVec 32 := 16#32
  let v864 : BitVec 32 := Scalar.muli arg13 c16_i32_521
  let c11_i32 : BitVec 32 := 11#32
  let v865 : BitVec 32 := Scalar.addi v864 c11_i32
  let c5_i32_526 : BitVec 32 := 5#32
  let v878 : BitVec 32 := Scalar.muli v865 c5_i32_526
  let v879 : BitVec 32 := Scalar.addi v878 c0_i32_527
  let c0_i32_530 : BitVec 32 := 0#32
  ![v879.toNat, 0]
def k0_off1811 (v889 : BitVec 32) : Fin 2 → Nat :=
  let c0_i32_535 : BitVec 32 := 0#32
  ![v889.toNat, 0]

def k0_chk741 (v889 : BitVec 32) : Prop :=
  (∀ a, (k0_off1811 v889) a + S1x64.size a ≤ S1000000x64.size a)
instance k0_chk741.dec : ∀ (v889 : BitVec 32), Decidable (k0_chk741 v889) := fun v889 => decidable_of_iff' _ (Iff.of_eq (k0_chk741.eq_1 v889))
theorem k0_off1811_inb : ∀ (v889 : BitVec 32) (k0_hw741 : k0_chk741 v889), ∀ a, (k0_off1811 v889) a + S1x64.size a ≤ S1000000x64.size a := fun v889 k0_hw741 => k0_hw741

def k0_off1812 (k0_t22 : Fin k0_t22_loop.trips) (c1_i32_533 : BitVec 32) : Fin 2 → Nat :=
  let c0_i32_104 : BitVec 32 := 0#32
  let c1_i32_106 : BitVec 32 := 1#32
  let arg13 : BitVec 32 := Scf.iv c0_i32_104 c1_i32_106 k0_t22
  let c16_i32_521 : BitVec 32 := 16#32
  let v864 : BitVec 32 := Scalar.muli arg13 c16_i32_521
  let c11_i32 : BitVec 32 := 11#32
  let v865 : BitVec 32 := Scalar.addi v864 c11_i32
  let c5_i32_532 : BitVec 32 := 5#32
  let v890 : BitVec 32 := Scalar.muli v865 c5_i32_532
  let v891 : BitVec 32 := Scalar.addi v890 c1_i32_533
  let c0_i32_536 : BitVec 32 := 0#32
  ![v891.toNat, 0]
def k0_off1813 (v901 : BitVec 32) : Fin 2 → Nat :=
  let c0_i32_541 : BitVec 32 := 0#32
  ![v901.toNat, 0]

def k0_chk742 (v901 : BitVec 32) : Prop :=
  (∀ a, (k0_off1813 v901) a + S1x64.size a ≤ S1000000x64.size a)
instance k0_chk742.dec : ∀ (v901 : BitVec 32), Decidable (k0_chk742 v901) := fun v901 => decidable_of_iff' _ (Iff.of_eq (k0_chk742.eq_1 v901))
theorem k0_off1813_inb : ∀ (v901 : BitVec 32) (k0_hw742 : k0_chk742 v901), ∀ a, (k0_off1813 v901) a + S1x64.size a ≤ S1000000x64.size a := fun v901 k0_hw742 => k0_hw742

def k0_off1814 (k0_t22 : Fin k0_t22_loop.trips) (c2_i32_539 : BitVec 32) : Fin 2 → Nat :=
  let c0_i32_104 : BitVec 32 := 0#32
  let c1_i32_106 : BitVec 32 := 1#32
  let arg13 : BitVec 32 := Scf.iv c0_i32_104 c1_i32_106 k0_t22
  let c16_i32_521 : BitVec 32 := 16#32
  let v864 : BitVec 32 := Scalar.muli arg13 c16_i32_521
  let c11_i32 : BitVec 32 := 11#32
  let v865 : BitVec 32 := Scalar.addi v864 c11_i32
  let c5_i32_538 : BitVec 32 := 5#32
  let v902 : BitVec 32 := Scalar.muli v865 c5_i32_538
  let v903 : BitVec 32 := Scalar.addi v902 c2_i32_539
  let c0_i32_542 : BitVec 32 := 0#32
  ![v903.toNat, 0]
def k0_off1815 (v913 : BitVec 32) : Fin 2 → Nat :=
  let c0_i32_547 : BitVec 32 := 0#32
  ![v913.toNat, 0]

def k0_chk743 (v913 : BitVec 32) : Prop :=
  (∀ a, (k0_off1815 v913) a + S1x64.size a ≤ S1000000x64.size a)
instance k0_chk743.dec : ∀ (v913 : BitVec 32), Decidable (k0_chk743 v913) := fun v913 => decidable_of_iff' _ (Iff.of_eq (k0_chk743.eq_1 v913))
theorem k0_off1815_inb : ∀ (v913 : BitVec 32) (k0_hw743 : k0_chk743 v913), ∀ a, (k0_off1815 v913) a + S1x64.size a ≤ S1000000x64.size a := fun v913 k0_hw743 => k0_hw743

def k0_off1816 (k0_t22 : Fin k0_t22_loop.trips) (c3_i32_545 : BitVec 32) : Fin 2 → Nat :=
  let c0_i32_104 : BitVec 32 := 0#32
  let c1_i32_106 : BitVec 32 := 1#32
  let arg13 : BitVec 32 := Scf.iv c0_i32_104 c1_i32_106 k0_t22
  let c16_i32_521 : BitVec 32 := 16#32
  let v864 : BitVec 32 := Scalar.muli arg13 c16_i32_521
  let c11_i32 : BitVec 32 := 11#32
  let v865 : BitVec 32 := Scalar.addi v864 c11_i32
  let c5_i32_544 : BitVec 32 := 5#32
  let v914 : BitVec 32 := Scalar.muli v865 c5_i32_544
  let v915 : BitVec 32 := Scalar.addi v914 c3_i32_545
  let c0_i32_548 : BitVec 32 := 0#32
  ![v915.toNat, 0]
def k0_off1817 (v925 : BitVec 32) : Fin 2 → Nat :=
  let c0_i32_553 : BitVec 32 := 0#32
  ![v925.toNat, 0]

def k0_chk744 (v925 : BitVec 32) : Prop :=
  (∀ a, (k0_off1817 v925) a + S1x64.size a ≤ S1000000x64.size a)
instance k0_chk744.dec : ∀ (v925 : BitVec 32), Decidable (k0_chk744 v925) := fun v925 => decidable_of_iff' _ (Iff.of_eq (k0_chk744.eq_1 v925))
theorem k0_off1817_inb : ∀ (v925 : BitVec 32) (k0_hw744 : k0_chk744 v925), ∀ a, (k0_off1817 v925) a + S1x64.size a ≤ S1000000x64.size a := fun v925 k0_hw744 => k0_hw744

def k0_off1818 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_521 : BitVec 32 := 16#32
  let v864 : BitVec 32 := Scalar.muli arg13 c16_i32_521
  let c11_i32 : BitVec 32 := 11#32
  let v865 : BitVec 32 := Scalar.addi v864 c11_i32
  let c5_i32_550 : BitVec 32 := 5#32
  let v926 : BitVec 32 := Scalar.muli v865 c5_i32_550
  let c4_i32_551 : BitVec 32 := 4#32
  let v927 : BitVec 32 := Scalar.addi v926 c4_i32_551
  let c0_i32_554 : BitVec 32 := 0#32
  ![v927.toNat, 0]
def k0_off1819 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_556 : BitVec 32 := 16#32
  let v936 : BitVec 32 := Scalar.muli arg13 c16_i32_556
  let c12_i32 : BitVec 32 := 12#32
  let v937 : BitVec 32 := Scalar.addi v936 c12_i32
  let c0_i32_557 : BitVec 32 := 0#32
  ![v937.toNat, 0]
def k0_off1820 (v939 : BitVec 32) : Fin 2 → Nat :=
  let c0_i32_558 : BitVec 32 := 0#32
  ![v939.toNat, 0]

def k0_chk745 (v939 : BitVec 32) : Prop :=
  (∀ a, (k0_off1820 v939) a + S1x64.size a ≤ S1000000x64.size a)
instance k0_chk745.dec : ∀ (v939 : BitVec 32), Decidable (k0_chk745 v939) := fun v939 => decidable_of_iff' _ (Iff.of_eq (k0_chk745.eq_1 v939))
theorem k0_off1820_inb : ∀ (v939 : BitVec 32) (k0_hw745 : k0_chk745 v939), ∀ a, (k0_off1820 v939) a + S1x64.size a ≤ S1000000x64.size a := fun v939 k0_hw745 => k0_hw745

def k0_off1821 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_556 : BitVec 32 := 16#32
  let v936 : BitVec 32 := Scalar.muli arg13 c16_i32_556
  let c12_i32 : BitVec 32 := 12#32
  let v937 : BitVec 32 := Scalar.addi v936 c12_i32
  let c0_i32_559 : BitVec 32 := 0#32
  ![v937.toNat, 0]
def k0_off1822 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_556 : BitVec 32 := 16#32
  let v936 : BitVec 32 := Scalar.muli arg13 c16_i32_556
  let c12_i32 : BitVec 32 := 12#32
  let v937 : BitVec 32 := Scalar.addi v936 c12_i32
  let c5_i32_561 : BitVec 32 := 5#32
  let v950 : BitVec 32 := Scalar.muli v937 c5_i32_561
  let c0_i32_562 : BitVec 32 := 0#32
  let v951 : BitVec 32 := Scalar.addi v950 c0_i32_562
  let c0_i32_563 : BitVec 32 := 0#32
  ![v951.toNat, 0]
def k0_off1823 (v949 : BitVec 32) : Fin 2 → Nat :=
  let c0_i32_564 : BitVec 32 := 0#32
  ![v949.toNat, 0]

def k0_chk746 (v949 : BitVec 32) : Prop :=
  (∀ a, (k0_off1823 v949) a + S1x64.size a ≤ S1000000x64.size a)
instance k0_chk746.dec : ∀ (v949 : BitVec 32), Decidable (k0_chk746 v949) := fun v949 => decidable_of_iff' _ (Iff.of_eq (k0_chk746.eq_1 v949))
theorem k0_off1823_inb : ∀ (v949 : BitVec 32) (k0_hw746 : k0_chk746 v949), ∀ a, (k0_off1823 v949) a + S1x64.size a ≤ S1000000x64.size a := fun v949 k0_hw746 => k0_hw746

def k0_off1824 (k0_t22 : Fin k0_t22_loop.trips) (c0_i32_562 : BitVec 32) : Fin 2 → Nat :=
  let c0_i32_104 : BitVec 32 := 0#32
  let c1_i32_106 : BitVec 32 := 1#32
  let arg13 : BitVec 32 := Scf.iv c0_i32_104 c1_i32_106 k0_t22
  let c16_i32_556 : BitVec 32 := 16#32
  let v936 : BitVec 32 := Scalar.muli arg13 c16_i32_556
  let c12_i32 : BitVec 32 := 12#32
  let v937 : BitVec 32 := Scalar.addi v936 c12_i32
  let c5_i32_561 : BitVec 32 := 5#32
  let v950 : BitVec 32 := Scalar.muli v937 c5_i32_561
  let v951 : BitVec 32 := Scalar.addi v950 c0_i32_562
  let c0_i32_565 : BitVec 32 := 0#32
  ![v951.toNat, 0]
def k0_off1825 (v961 : BitVec 32) : Fin 2 → Nat :=
  let c0_i32_570 : BitVec 32 := 0#32
  ![v961.toNat, 0]

def k0_chk747 (v961 : BitVec 32) : Prop :=
  (∀ a, (k0_off1825 v961) a + S1x64.size a ≤ S1000000x64.size a)
instance k0_chk747.dec : ∀ (v961 : BitVec 32), Decidable (k0_chk747 v961) := fun v961 => decidable_of_iff' _ (Iff.of_eq (k0_chk747.eq_1 v961))
theorem k0_off1825_inb : ∀ (v961 : BitVec 32) (k0_hw747 : k0_chk747 v961), ∀ a, (k0_off1825 v961) a + S1x64.size a ≤ S1000000x64.size a := fun v961 k0_hw747 => k0_hw747

def k0_off1826 (k0_t22 : Fin k0_t22_loop.trips) (c1_i32_568 : BitVec 32) : Fin 2 → Nat :=
  let c0_i32_104 : BitVec 32 := 0#32
  let c1_i32_106 : BitVec 32 := 1#32
  let arg13 : BitVec 32 := Scf.iv c0_i32_104 c1_i32_106 k0_t22
  let c16_i32_556 : BitVec 32 := 16#32
  let v936 : BitVec 32 := Scalar.muli arg13 c16_i32_556
  let c12_i32 : BitVec 32 := 12#32
  let v937 : BitVec 32 := Scalar.addi v936 c12_i32
  let c5_i32_567 : BitVec 32 := 5#32
  let v962 : BitVec 32 := Scalar.muli v937 c5_i32_567
  let v963 : BitVec 32 := Scalar.addi v962 c1_i32_568
  let c0_i32_571 : BitVec 32 := 0#32
  ![v963.toNat, 0]
def k0_off1827 (v973 : BitVec 32) : Fin 2 → Nat :=
  let c0_i32_576 : BitVec 32 := 0#32
  ![v973.toNat, 0]

def k0_chk748 (v973 : BitVec 32) : Prop :=
  (∀ a, (k0_off1827 v973) a + S1x64.size a ≤ S1000000x64.size a)
instance k0_chk748.dec : ∀ (v973 : BitVec 32), Decidable (k0_chk748 v973) := fun v973 => decidable_of_iff' _ (Iff.of_eq (k0_chk748.eq_1 v973))
theorem k0_off1827_inb : ∀ (v973 : BitVec 32) (k0_hw748 : k0_chk748 v973), ∀ a, (k0_off1827 v973) a + S1x64.size a ≤ S1000000x64.size a := fun v973 k0_hw748 => k0_hw748

def k0_off1828 (k0_t22 : Fin k0_t22_loop.trips) (c2_i32_574 : BitVec 32) : Fin 2 → Nat :=
  let c0_i32_104 : BitVec 32 := 0#32
  let c1_i32_106 : BitVec 32 := 1#32
  let arg13 : BitVec 32 := Scf.iv c0_i32_104 c1_i32_106 k0_t22
  let c16_i32_556 : BitVec 32 := 16#32
  let v936 : BitVec 32 := Scalar.muli arg13 c16_i32_556
  let c12_i32 : BitVec 32 := 12#32
  let v937 : BitVec 32 := Scalar.addi v936 c12_i32
  let c5_i32_573 : BitVec 32 := 5#32
  let v974 : BitVec 32 := Scalar.muli v937 c5_i32_573
  let v975 : BitVec 32 := Scalar.addi v974 c2_i32_574
  let c0_i32_577 : BitVec 32 := 0#32
  ![v975.toNat, 0]
def k0_off1829 (v985 : BitVec 32) : Fin 2 → Nat :=
  let c0_i32_582 : BitVec 32 := 0#32
  ![v985.toNat, 0]

def k0_chk749 (v985 : BitVec 32) : Prop :=
  (∀ a, (k0_off1829 v985) a + S1x64.size a ≤ S1000000x64.size a)
instance k0_chk749.dec : ∀ (v985 : BitVec 32), Decidable (k0_chk749 v985) := fun v985 => decidable_of_iff' _ (Iff.of_eq (k0_chk749.eq_1 v985))
theorem k0_off1829_inb : ∀ (v985 : BitVec 32) (k0_hw749 : k0_chk749 v985), ∀ a, (k0_off1829 v985) a + S1x64.size a ≤ S1000000x64.size a := fun v985 k0_hw749 => k0_hw749

def k0_off1830 (k0_t22 : Fin k0_t22_loop.trips) (c3_i32_580 : BitVec 32) : Fin 2 → Nat :=
  let c0_i32_104 : BitVec 32 := 0#32
  let c1_i32_106 : BitVec 32 := 1#32
  let arg13 : BitVec 32 := Scf.iv c0_i32_104 c1_i32_106 k0_t22
  let c16_i32_556 : BitVec 32 := 16#32
  let v936 : BitVec 32 := Scalar.muli arg13 c16_i32_556
  let c12_i32 : BitVec 32 := 12#32
  let v937 : BitVec 32 := Scalar.addi v936 c12_i32
  let c5_i32_579 : BitVec 32 := 5#32
  let v986 : BitVec 32 := Scalar.muli v937 c5_i32_579
  let v987 : BitVec 32 := Scalar.addi v986 c3_i32_580
  let c0_i32_583 : BitVec 32 := 0#32
  ![v987.toNat, 0]
def k0_off1831 (v997 : BitVec 32) : Fin 2 → Nat :=
  let c0_i32_588 : BitVec 32 := 0#32
  ![v997.toNat, 0]

def k0_chk750 (v997 : BitVec 32) : Prop :=
  (∀ a, (k0_off1831 v997) a + S1x64.size a ≤ S1000000x64.size a)
instance k0_chk750.dec : ∀ (v997 : BitVec 32), Decidable (k0_chk750 v997) := fun v997 => decidable_of_iff' _ (Iff.of_eq (k0_chk750.eq_1 v997))
theorem k0_off1831_inb : ∀ (v997 : BitVec 32) (k0_hw750 : k0_chk750 v997), ∀ a, (k0_off1831 v997) a + S1x64.size a ≤ S1000000x64.size a := fun v997 k0_hw750 => k0_hw750

def k0_off1832 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_556 : BitVec 32 := 16#32
  let v936 : BitVec 32 := Scalar.muli arg13 c16_i32_556
  let c12_i32 : BitVec 32 := 12#32
  let v937 : BitVec 32 := Scalar.addi v936 c12_i32
  let c5_i32_585 : BitVec 32 := 5#32
  let v998 : BitVec 32 := Scalar.muli v937 c5_i32_585
  let c4_i32_586 : BitVec 32 := 4#32
  let v999 : BitVec 32 := Scalar.addi v998 c4_i32_586
  let c0_i32_589 : BitVec 32 := 0#32
  ![v999.toNat, 0]
def k0_off1833 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_591 : BitVec 32 := 16#32
  let v1008 : BitVec 32 := Scalar.muli arg13 c16_i32_591
  let c13_i32 : BitVec 32 := 13#32
  let v1009 : BitVec 32 := Scalar.addi v1008 c13_i32
  let c0_i32_592 : BitVec 32 := 0#32
  ![v1009.toNat, 0]
def k0_off1834 (v1011 : BitVec 32) : Fin 2 → Nat :=
  let c0_i32_593 : BitVec 32 := 0#32
  ![v1011.toNat, 0]

def k0_chk751 (v1011 : BitVec 32) : Prop :=
  (∀ a, (k0_off1834 v1011) a + S1x64.size a ≤ S1000000x64.size a)
instance k0_chk751.dec : ∀ (v1011 : BitVec 32), Decidable (k0_chk751 v1011) := fun v1011 => decidable_of_iff' _ (Iff.of_eq (k0_chk751.eq_1 v1011))
theorem k0_off1834_inb : ∀ (v1011 : BitVec 32) (k0_hw751 : k0_chk751 v1011), ∀ a, (k0_off1834 v1011) a + S1x64.size a ≤ S1000000x64.size a := fun v1011 k0_hw751 => k0_hw751

def k0_off1835 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_591 : BitVec 32 := 16#32
  let v1008 : BitVec 32 := Scalar.muli arg13 c16_i32_591
  let c13_i32 : BitVec 32 := 13#32
  let v1009 : BitVec 32 := Scalar.addi v1008 c13_i32
  let c0_i32_594 : BitVec 32 := 0#32
  ![v1009.toNat, 0]
def k0_off1836 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_591 : BitVec 32 := 16#32
  let v1008 : BitVec 32 := Scalar.muli arg13 c16_i32_591
  let c13_i32 : BitVec 32 := 13#32
  let v1009 : BitVec 32 := Scalar.addi v1008 c13_i32
  let c5_i32_596 : BitVec 32 := 5#32
  let v1022 : BitVec 32 := Scalar.muli v1009 c5_i32_596
  let c0_i32_597 : BitVec 32 := 0#32
  let v1023 : BitVec 32 := Scalar.addi v1022 c0_i32_597
  let c0_i32_598 : BitVec 32 := 0#32
  ![v1023.toNat, 0]
def k0_off1837 (v1021 : BitVec 32) : Fin 2 → Nat :=
  let c0_i32_599 : BitVec 32 := 0#32
  ![v1021.toNat, 0]

def k0_chk752 (v1021 : BitVec 32) : Prop :=
  (∀ a, (k0_off1837 v1021) a + S1x64.size a ≤ S1000000x64.size a)
instance k0_chk752.dec : ∀ (v1021 : BitVec 32), Decidable (k0_chk752 v1021) := fun v1021 => decidable_of_iff' _ (Iff.of_eq (k0_chk752.eq_1 v1021))
theorem k0_off1837_inb : ∀ (v1021 : BitVec 32) (k0_hw752 : k0_chk752 v1021), ∀ a, (k0_off1837 v1021) a + S1x64.size a ≤ S1000000x64.size a := fun v1021 k0_hw752 => k0_hw752

def k0_off1838 (k0_t22 : Fin k0_t22_loop.trips) (c0_i32_597 : BitVec 32) : Fin 2 → Nat :=
  let c0_i32_104 : BitVec 32 := 0#32
  let c1_i32_106 : BitVec 32 := 1#32
  let arg13 : BitVec 32 := Scf.iv c0_i32_104 c1_i32_106 k0_t22
  let c16_i32_591 : BitVec 32 := 16#32
  let v1008 : BitVec 32 := Scalar.muli arg13 c16_i32_591
  let c13_i32 : BitVec 32 := 13#32
  let v1009 : BitVec 32 := Scalar.addi v1008 c13_i32
  let c5_i32_596 : BitVec 32 := 5#32
  let v1022 : BitVec 32 := Scalar.muli v1009 c5_i32_596
  let v1023 : BitVec 32 := Scalar.addi v1022 c0_i32_597
  let c0_i32_600 : BitVec 32 := 0#32
  ![v1023.toNat, 0]
def k0_off1839 (v1033 : BitVec 32) : Fin 2 → Nat :=
  let c0_i32_605 : BitVec 32 := 0#32
  ![v1033.toNat, 0]

def k0_chk753 (v1033 : BitVec 32) : Prop :=
  (∀ a, (k0_off1839 v1033) a + S1x64.size a ≤ S1000000x64.size a)
instance k0_chk753.dec : ∀ (v1033 : BitVec 32), Decidable (k0_chk753 v1033) := fun v1033 => decidable_of_iff' _ (Iff.of_eq (k0_chk753.eq_1 v1033))
theorem k0_off1839_inb : ∀ (v1033 : BitVec 32) (k0_hw753 : k0_chk753 v1033), ∀ a, (k0_off1839 v1033) a + S1x64.size a ≤ S1000000x64.size a := fun v1033 k0_hw753 => k0_hw753

def k0_off1840 (k0_t22 : Fin k0_t22_loop.trips) (c1_i32_603 : BitVec 32) : Fin 2 → Nat :=
  let c0_i32_104 : BitVec 32 := 0#32
  let c1_i32_106 : BitVec 32 := 1#32
  let arg13 : BitVec 32 := Scf.iv c0_i32_104 c1_i32_106 k0_t22
  let c16_i32_591 : BitVec 32 := 16#32
  let v1008 : BitVec 32 := Scalar.muli arg13 c16_i32_591
  let c13_i32 : BitVec 32 := 13#32
  let v1009 : BitVec 32 := Scalar.addi v1008 c13_i32
  let c5_i32_602 : BitVec 32 := 5#32
  let v1034 : BitVec 32 := Scalar.muli v1009 c5_i32_602
  let v1035 : BitVec 32 := Scalar.addi v1034 c1_i32_603
  let c0_i32_606 : BitVec 32 := 0#32
  ![v1035.toNat, 0]
def k0_off1841 (v1045 : BitVec 32) : Fin 2 → Nat :=
  let c0_i32_611 : BitVec 32 := 0#32
  ![v1045.toNat, 0]

def k0_chk754 (v1045 : BitVec 32) : Prop :=
  (∀ a, (k0_off1841 v1045) a + S1x64.size a ≤ S1000000x64.size a)
instance k0_chk754.dec : ∀ (v1045 : BitVec 32), Decidable (k0_chk754 v1045) := fun v1045 => decidable_of_iff' _ (Iff.of_eq (k0_chk754.eq_1 v1045))
theorem k0_off1841_inb : ∀ (v1045 : BitVec 32) (k0_hw754 : k0_chk754 v1045), ∀ a, (k0_off1841 v1045) a + S1x64.size a ≤ S1000000x64.size a := fun v1045 k0_hw754 => k0_hw754

def k0_off1842 (k0_t22 : Fin k0_t22_loop.trips) (c2_i32_609 : BitVec 32) : Fin 2 → Nat :=
  let c0_i32_104 : BitVec 32 := 0#32
  let c1_i32_106 : BitVec 32 := 1#32
  let arg13 : BitVec 32 := Scf.iv c0_i32_104 c1_i32_106 k0_t22
  let c16_i32_591 : BitVec 32 := 16#32
  let v1008 : BitVec 32 := Scalar.muli arg13 c16_i32_591
  let c13_i32 : BitVec 32 := 13#32
  let v1009 : BitVec 32 := Scalar.addi v1008 c13_i32
  let c5_i32_608 : BitVec 32 := 5#32
  let v1046 : BitVec 32 := Scalar.muli v1009 c5_i32_608
  let v1047 : BitVec 32 := Scalar.addi v1046 c2_i32_609
  let c0_i32_612 : BitVec 32 := 0#32
  ![v1047.toNat, 0]
def k0_off1843 (v1057 : BitVec 32) : Fin 2 → Nat :=
  let c0_i32_617 : BitVec 32 := 0#32
  ![v1057.toNat, 0]

def k0_chk755 (v1057 : BitVec 32) : Prop :=
  (∀ a, (k0_off1843 v1057) a + S1x64.size a ≤ S1000000x64.size a)
instance k0_chk755.dec : ∀ (v1057 : BitVec 32), Decidable (k0_chk755 v1057) := fun v1057 => decidable_of_iff' _ (Iff.of_eq (k0_chk755.eq_1 v1057))
theorem k0_off1843_inb : ∀ (v1057 : BitVec 32) (k0_hw755 : k0_chk755 v1057), ∀ a, (k0_off1843 v1057) a + S1x64.size a ≤ S1000000x64.size a := fun v1057 k0_hw755 => k0_hw755

def k0_off1844 (k0_t22 : Fin k0_t22_loop.trips) (c3_i32_615 : BitVec 32) : Fin 2 → Nat :=
  let c0_i32_104 : BitVec 32 := 0#32
  let c1_i32_106 : BitVec 32 := 1#32
  let arg13 : BitVec 32 := Scf.iv c0_i32_104 c1_i32_106 k0_t22
  let c16_i32_591 : BitVec 32 := 16#32
  let v1008 : BitVec 32 := Scalar.muli arg13 c16_i32_591
  let c13_i32 : BitVec 32 := 13#32
  let v1009 : BitVec 32 := Scalar.addi v1008 c13_i32
  let c5_i32_614 : BitVec 32 := 5#32
  let v1058 : BitVec 32 := Scalar.muli v1009 c5_i32_614
  let v1059 : BitVec 32 := Scalar.addi v1058 c3_i32_615
  let c0_i32_618 : BitVec 32 := 0#32
  ![v1059.toNat, 0]
def k0_off1845 (v1069 : BitVec 32) : Fin 2 → Nat :=
  let c0_i32_623 : BitVec 32 := 0#32
  ![v1069.toNat, 0]

def k0_chk756 (v1069 : BitVec 32) : Prop :=
  (∀ a, (k0_off1845 v1069) a + S1x64.size a ≤ S1000000x64.size a)
instance k0_chk756.dec : ∀ (v1069 : BitVec 32), Decidable (k0_chk756 v1069) := fun v1069 => decidable_of_iff' _ (Iff.of_eq (k0_chk756.eq_1 v1069))
theorem k0_off1845_inb : ∀ (v1069 : BitVec 32) (k0_hw756 : k0_chk756 v1069), ∀ a, (k0_off1845 v1069) a + S1x64.size a ≤ S1000000x64.size a := fun v1069 k0_hw756 => k0_hw756

def k0_off1846 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_591 : BitVec 32 := 16#32
  let v1008 : BitVec 32 := Scalar.muli arg13 c16_i32_591
  let c13_i32 : BitVec 32 := 13#32
  let v1009 : BitVec 32 := Scalar.addi v1008 c13_i32
  let c5_i32_620 : BitVec 32 := 5#32
  let v1070 : BitVec 32 := Scalar.muli v1009 c5_i32_620
  let c4_i32_621 : BitVec 32 := 4#32
  let v1071 : BitVec 32 := Scalar.addi v1070 c4_i32_621
  let c0_i32_624 : BitVec 32 := 0#32
  ![v1071.toNat, 0]
def k0_off1847 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_626 : BitVec 32 := 16#32
  let v1080 : BitVec 32 := Scalar.muli arg13 c16_i32_626
  let c14_i32 : BitVec 32 := 14#32
  let v1081 : BitVec 32 := Scalar.addi v1080 c14_i32
  let c0_i32_627 : BitVec 32 := 0#32
  ![v1081.toNat, 0]
def k0_off1848 (v1083 : BitVec 32) : Fin 2 → Nat :=
  let c0_i32_628 : BitVec 32 := 0#32
  ![v1083.toNat, 0]

def k0_chk757 (v1083 : BitVec 32) : Prop :=
  (∀ a, (k0_off1848 v1083) a + S1x64.size a ≤ S1000000x64.size a)
instance k0_chk757.dec : ∀ (v1083 : BitVec 32), Decidable (k0_chk757 v1083) := fun v1083 => decidable_of_iff' _ (Iff.of_eq (k0_chk757.eq_1 v1083))
theorem k0_off1848_inb : ∀ (v1083 : BitVec 32) (k0_hw757 : k0_chk757 v1083), ∀ a, (k0_off1848 v1083) a + S1x64.size a ≤ S1000000x64.size a := fun v1083 k0_hw757 => k0_hw757

def k0_off1849 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_626 : BitVec 32 := 16#32
  let v1080 : BitVec 32 := Scalar.muli arg13 c16_i32_626
  let c14_i32 : BitVec 32 := 14#32
  let v1081 : BitVec 32 := Scalar.addi v1080 c14_i32
  let c0_i32_629 : BitVec 32 := 0#32
  ![v1081.toNat, 0]
def k0_off1850 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_626 : BitVec 32 := 16#32
  let v1080 : BitVec 32 := Scalar.muli arg13 c16_i32_626
  let c14_i32 : BitVec 32 := 14#32
  let v1081 : BitVec 32 := Scalar.addi v1080 c14_i32
  let c5_i32_631 : BitVec 32 := 5#32
  let v1094 : BitVec 32 := Scalar.muli v1081 c5_i32_631
  let c0_i32_632 : BitVec 32 := 0#32
  let v1095 : BitVec 32 := Scalar.addi v1094 c0_i32_632
  let c0_i32_633 : BitVec 32 := 0#32
  ![v1095.toNat, 0]
def k0_off1851 (v1093 : BitVec 32) : Fin 2 → Nat :=
  let c0_i32_634 : BitVec 32 := 0#32
  ![v1093.toNat, 0]

def k0_chk758 (v1093 : BitVec 32) : Prop :=
  (∀ a, (k0_off1851 v1093) a + S1x64.size a ≤ S1000000x64.size a)
instance k0_chk758.dec : ∀ (v1093 : BitVec 32), Decidable (k0_chk758 v1093) := fun v1093 => decidable_of_iff' _ (Iff.of_eq (k0_chk758.eq_1 v1093))
theorem k0_off1851_inb : ∀ (v1093 : BitVec 32) (k0_hw758 : k0_chk758 v1093), ∀ a, (k0_off1851 v1093) a + S1x64.size a ≤ S1000000x64.size a := fun v1093 k0_hw758 => k0_hw758

def k0_off1852 (k0_t22 : Fin k0_t22_loop.trips) (c0_i32_632 : BitVec 32) : Fin 2 → Nat :=
  let c0_i32_104 : BitVec 32 := 0#32
  let c1_i32_106 : BitVec 32 := 1#32
  let arg13 : BitVec 32 := Scf.iv c0_i32_104 c1_i32_106 k0_t22
  let c16_i32_626 : BitVec 32 := 16#32
  let v1080 : BitVec 32 := Scalar.muli arg13 c16_i32_626
  let c14_i32 : BitVec 32 := 14#32
  let v1081 : BitVec 32 := Scalar.addi v1080 c14_i32
  let c5_i32_631 : BitVec 32 := 5#32
  let v1094 : BitVec 32 := Scalar.muli v1081 c5_i32_631
  let v1095 : BitVec 32 := Scalar.addi v1094 c0_i32_632
  let c0_i32_635 : BitVec 32 := 0#32
  ![v1095.toNat, 0]
def k0_off1853 (v1105 : BitVec 32) : Fin 2 → Nat :=
  let c0_i32_640 : BitVec 32 := 0#32
  ![v1105.toNat, 0]

def k0_chk759 (v1105 : BitVec 32) : Prop :=
  (∀ a, (k0_off1853 v1105) a + S1x64.size a ≤ S1000000x64.size a)
instance k0_chk759.dec : ∀ (v1105 : BitVec 32), Decidable (k0_chk759 v1105) := fun v1105 => decidable_of_iff' _ (Iff.of_eq (k0_chk759.eq_1 v1105))
theorem k0_off1853_inb : ∀ (v1105 : BitVec 32) (k0_hw759 : k0_chk759 v1105), ∀ a, (k0_off1853 v1105) a + S1x64.size a ≤ S1000000x64.size a := fun v1105 k0_hw759 => k0_hw759

def k0_off1854 (k0_t22 : Fin k0_t22_loop.trips) (c1_i32_638 : BitVec 32) : Fin 2 → Nat :=
  let c0_i32_104 : BitVec 32 := 0#32
  let c1_i32_106 : BitVec 32 := 1#32
  let arg13 : BitVec 32 := Scf.iv c0_i32_104 c1_i32_106 k0_t22
  let c16_i32_626 : BitVec 32 := 16#32
  let v1080 : BitVec 32 := Scalar.muli arg13 c16_i32_626
  let c14_i32 : BitVec 32 := 14#32
  let v1081 : BitVec 32 := Scalar.addi v1080 c14_i32
  let c5_i32_637 : BitVec 32 := 5#32
  let v1106 : BitVec 32 := Scalar.muli v1081 c5_i32_637
  let v1107 : BitVec 32 := Scalar.addi v1106 c1_i32_638
  let c0_i32_641 : BitVec 32 := 0#32
  ![v1107.toNat, 0]
def k0_off1855 (v1117 : BitVec 32) : Fin 2 → Nat :=
  let c0_i32_646 : BitVec 32 := 0#32
  ![v1117.toNat, 0]

def k0_chk760 (v1117 : BitVec 32) : Prop :=
  (∀ a, (k0_off1855 v1117) a + S1x64.size a ≤ S1000000x64.size a)
instance k0_chk760.dec : ∀ (v1117 : BitVec 32), Decidable (k0_chk760 v1117) := fun v1117 => decidable_of_iff' _ (Iff.of_eq (k0_chk760.eq_1 v1117))
theorem k0_off1855_inb : ∀ (v1117 : BitVec 32) (k0_hw760 : k0_chk760 v1117), ∀ a, (k0_off1855 v1117) a + S1x64.size a ≤ S1000000x64.size a := fun v1117 k0_hw760 => k0_hw760

def k0_off1856 (k0_t22 : Fin k0_t22_loop.trips) (c2_i32_644 : BitVec 32) : Fin 2 → Nat :=
  let c0_i32_104 : BitVec 32 := 0#32
  let c1_i32_106 : BitVec 32 := 1#32
  let arg13 : BitVec 32 := Scf.iv c0_i32_104 c1_i32_106 k0_t22
  let c16_i32_626 : BitVec 32 := 16#32
  let v1080 : BitVec 32 := Scalar.muli arg13 c16_i32_626
  let c14_i32 : BitVec 32 := 14#32
  let v1081 : BitVec 32 := Scalar.addi v1080 c14_i32
  let c5_i32_643 : BitVec 32 := 5#32
  let v1118 : BitVec 32 := Scalar.muli v1081 c5_i32_643
  let v1119 : BitVec 32 := Scalar.addi v1118 c2_i32_644
  let c0_i32_647 : BitVec 32 := 0#32
  ![v1119.toNat, 0]
def k0_off1857 (v1129 : BitVec 32) : Fin 2 → Nat :=
  let c0_i32_652 : BitVec 32 := 0#32
  ![v1129.toNat, 0]

def k0_chk761 (v1129 : BitVec 32) : Prop :=
  (∀ a, (k0_off1857 v1129) a + S1x64.size a ≤ S1000000x64.size a)
instance k0_chk761.dec : ∀ (v1129 : BitVec 32), Decidable (k0_chk761 v1129) := fun v1129 => decidable_of_iff' _ (Iff.of_eq (k0_chk761.eq_1 v1129))
theorem k0_off1857_inb : ∀ (v1129 : BitVec 32) (k0_hw761 : k0_chk761 v1129), ∀ a, (k0_off1857 v1129) a + S1x64.size a ≤ S1000000x64.size a := fun v1129 k0_hw761 => k0_hw761

def k0_off1858 (k0_t22 : Fin k0_t22_loop.trips) (c3_i32_650 : BitVec 32) : Fin 2 → Nat :=
  let c0_i32_104 : BitVec 32 := 0#32
  let c1_i32_106 : BitVec 32 := 1#32
  let arg13 : BitVec 32 := Scf.iv c0_i32_104 c1_i32_106 k0_t22
  let c16_i32_626 : BitVec 32 := 16#32
  let v1080 : BitVec 32 := Scalar.muli arg13 c16_i32_626
  let c14_i32 : BitVec 32 := 14#32
  let v1081 : BitVec 32 := Scalar.addi v1080 c14_i32
  let c5_i32_649 : BitVec 32 := 5#32
  let v1130 : BitVec 32 := Scalar.muli v1081 c5_i32_649
  let v1131 : BitVec 32 := Scalar.addi v1130 c3_i32_650
  let c0_i32_653 : BitVec 32 := 0#32
  ![v1131.toNat, 0]
def k0_off1859 (v1141 : BitVec 32) : Fin 2 → Nat :=
  let c0_i32_658 : BitVec 32 := 0#32
  ![v1141.toNat, 0]

def k0_chk762 (v1141 : BitVec 32) : Prop :=
  (∀ a, (k0_off1859 v1141) a + S1x64.size a ≤ S1000000x64.size a)
instance k0_chk762.dec : ∀ (v1141 : BitVec 32), Decidable (k0_chk762 v1141) := fun v1141 => decidable_of_iff' _ (Iff.of_eq (k0_chk762.eq_1 v1141))
theorem k0_off1859_inb : ∀ (v1141 : BitVec 32) (k0_hw762 : k0_chk762 v1141), ∀ a, (k0_off1859 v1141) a + S1x64.size a ≤ S1000000x64.size a := fun v1141 k0_hw762 => k0_hw762

def k0_off1860 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_626 : BitVec 32 := 16#32
  let v1080 : BitVec 32 := Scalar.muli arg13 c16_i32_626
  let c14_i32 : BitVec 32 := 14#32
  let v1081 : BitVec 32 := Scalar.addi v1080 c14_i32
  let c5_i32_655 : BitVec 32 := 5#32
  let v1142 : BitVec 32 := Scalar.muli v1081 c5_i32_655
  let c4_i32_656 : BitVec 32 := 4#32
  let v1143 : BitVec 32 := Scalar.addi v1142 c4_i32_656
  let c0_i32_659 : BitVec 32 := 0#32
  ![v1143.toNat, 0]
def k0_off1861 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_661 : BitVec 32 := 16#32
  let v1152 : BitVec 32 := Scalar.muli arg13 c16_i32_661
  let c15_i32 : BitVec 32 := 15#32
  let v1153 : BitVec 32 := Scalar.addi v1152 c15_i32
  let c0_i32_662 : BitVec 32 := 0#32
  ![v1153.toNat, 0]
def k0_off1862 (v1155 : BitVec 32) : Fin 2 → Nat :=
  let c0_i32_663 : BitVec 32 := 0#32
  ![v1155.toNat, 0]

def k0_chk763 (v1155 : BitVec 32) : Prop :=
  (∀ a, (k0_off1862 v1155) a + S1x64.size a ≤ S1000000x64.size a)
instance k0_chk763.dec : ∀ (v1155 : BitVec 32), Decidable (k0_chk763 v1155) := fun v1155 => decidable_of_iff' _ (Iff.of_eq (k0_chk763.eq_1 v1155))
theorem k0_off1862_inb : ∀ (v1155 : BitVec 32) (k0_hw763 : k0_chk763 v1155), ∀ a, (k0_off1862 v1155) a + S1x64.size a ≤ S1000000x64.size a := fun v1155 k0_hw763 => k0_hw763

def k0_off1863 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_661 : BitVec 32 := 16#32
  let v1152 : BitVec 32 := Scalar.muli arg13 c16_i32_661
  let c15_i32 : BitVec 32 := 15#32
  let v1153 : BitVec 32 := Scalar.addi v1152 c15_i32
  let c0_i32_664 : BitVec 32 := 0#32
  ![v1153.toNat, 0]
def k0_off1864 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_661 : BitVec 32 := 16#32
  let v1152 : BitVec 32 := Scalar.muli arg13 c16_i32_661
  let c15_i32 : BitVec 32 := 15#32
  let v1153 : BitVec 32 := Scalar.addi v1152 c15_i32
  let c5_i32_666 : BitVec 32 := 5#32
  let v1166 : BitVec 32 := Scalar.muli v1153 c5_i32_666
  let c0_i32_667 : BitVec 32 := 0#32
  let v1167 : BitVec 32 := Scalar.addi v1166 c0_i32_667
  let c0_i32_668 : BitVec 32 := 0#32
  ![v1167.toNat, 0]
def k0_off1865 (v1165 : BitVec 32) : Fin 2 → Nat :=
  let c0_i32_669 : BitVec 32 := 0#32
  ![v1165.toNat, 0]

def k0_chk764 (v1165 : BitVec 32) : Prop :=
  (∀ a, (k0_off1865 v1165) a + S1x64.size a ≤ S1000000x64.size a)
instance k0_chk764.dec : ∀ (v1165 : BitVec 32), Decidable (k0_chk764 v1165) := fun v1165 => decidable_of_iff' _ (Iff.of_eq (k0_chk764.eq_1 v1165))
theorem k0_off1865_inb : ∀ (v1165 : BitVec 32) (k0_hw764 : k0_chk764 v1165), ∀ a, (k0_off1865 v1165) a + S1x64.size a ≤ S1000000x64.size a := fun v1165 k0_hw764 => k0_hw764

def k0_off1866 (k0_t22 : Fin k0_t22_loop.trips) (c0_i32_667 : BitVec 32) : Fin 2 → Nat :=
  let c0_i32_104 : BitVec 32 := 0#32
  let c1_i32_106 : BitVec 32 := 1#32
  let arg13 : BitVec 32 := Scf.iv c0_i32_104 c1_i32_106 k0_t22
  let c16_i32_661 : BitVec 32 := 16#32
  let v1152 : BitVec 32 := Scalar.muli arg13 c16_i32_661
  let c15_i32 : BitVec 32 := 15#32
  let v1153 : BitVec 32 := Scalar.addi v1152 c15_i32
  let c5_i32_666 : BitVec 32 := 5#32
  let v1166 : BitVec 32 := Scalar.muli v1153 c5_i32_666
  let v1167 : BitVec 32 := Scalar.addi v1166 c0_i32_667
  let c0_i32_670 : BitVec 32 := 0#32
  ![v1167.toNat, 0]
def k0_off1867 (v1177 : BitVec 32) : Fin 2 → Nat :=
  let c0_i32_675 : BitVec 32 := 0#32
  ![v1177.toNat, 0]

def k0_chk765 (v1177 : BitVec 32) : Prop :=
  (∀ a, (k0_off1867 v1177) a + S1x64.size a ≤ S1000000x64.size a)
instance k0_chk765.dec : ∀ (v1177 : BitVec 32), Decidable (k0_chk765 v1177) := fun v1177 => decidable_of_iff' _ (Iff.of_eq (k0_chk765.eq_1 v1177))
theorem k0_off1867_inb : ∀ (v1177 : BitVec 32) (k0_hw765 : k0_chk765 v1177), ∀ a, (k0_off1867 v1177) a + S1x64.size a ≤ S1000000x64.size a := fun v1177 k0_hw765 => k0_hw765

def k0_off1868 (k0_t22 : Fin k0_t22_loop.trips) (c1_i32_673 : BitVec 32) : Fin 2 → Nat :=
  let c0_i32_104 : BitVec 32 := 0#32
  let c1_i32_106 : BitVec 32 := 1#32
  let arg13 : BitVec 32 := Scf.iv c0_i32_104 c1_i32_106 k0_t22
  let c16_i32_661 : BitVec 32 := 16#32
  let v1152 : BitVec 32 := Scalar.muli arg13 c16_i32_661
  let c15_i32 : BitVec 32 := 15#32
  let v1153 : BitVec 32 := Scalar.addi v1152 c15_i32
  let c5_i32_672 : BitVec 32 := 5#32
  let v1178 : BitVec 32 := Scalar.muli v1153 c5_i32_672
  let v1179 : BitVec 32 := Scalar.addi v1178 c1_i32_673
  let c0_i32_676 : BitVec 32 := 0#32
  ![v1179.toNat, 0]
def k0_off1869 (v1189 : BitVec 32) : Fin 2 → Nat :=
  let c0_i32_681 : BitVec 32 := 0#32
  ![v1189.toNat, 0]

def k0_chk766 (v1189 : BitVec 32) : Prop :=
  (∀ a, (k0_off1869 v1189) a + S1x64.size a ≤ S1000000x64.size a)
instance k0_chk766.dec : ∀ (v1189 : BitVec 32), Decidable (k0_chk766 v1189) := fun v1189 => decidable_of_iff' _ (Iff.of_eq (k0_chk766.eq_1 v1189))
theorem k0_off1869_inb : ∀ (v1189 : BitVec 32) (k0_hw766 : k0_chk766 v1189), ∀ a, (k0_off1869 v1189) a + S1x64.size a ≤ S1000000x64.size a := fun v1189 k0_hw766 => k0_hw766

def k0_off1870 (k0_t22 : Fin k0_t22_loop.trips) (c2_i32_679 : BitVec 32) : Fin 2 → Nat :=
  let c0_i32_104 : BitVec 32 := 0#32
  let c1_i32_106 : BitVec 32 := 1#32
  let arg13 : BitVec 32 := Scf.iv c0_i32_104 c1_i32_106 k0_t22
  let c16_i32_661 : BitVec 32 := 16#32
  let v1152 : BitVec 32 := Scalar.muli arg13 c16_i32_661
  let c15_i32 : BitVec 32 := 15#32
  let v1153 : BitVec 32 := Scalar.addi v1152 c15_i32
  let c5_i32_678 : BitVec 32 := 5#32
  let v1190 : BitVec 32 := Scalar.muli v1153 c5_i32_678
  let v1191 : BitVec 32 := Scalar.addi v1190 c2_i32_679
  let c0_i32_682 : BitVec 32 := 0#32
  ![v1191.toNat, 0]
def k0_off1871 (v1201 : BitVec 32) : Fin 2 → Nat :=
  let c0_i32_687 : BitVec 32 := 0#32
  ![v1201.toNat, 0]

def k0_chk767 (v1201 : BitVec 32) : Prop :=
  (∀ a, (k0_off1871 v1201) a + S1x64.size a ≤ S1000000x64.size a)
instance k0_chk767.dec : ∀ (v1201 : BitVec 32), Decidable (k0_chk767 v1201) := fun v1201 => decidable_of_iff' _ (Iff.of_eq (k0_chk767.eq_1 v1201))
theorem k0_off1871_inb : ∀ (v1201 : BitVec 32) (k0_hw767 : k0_chk767 v1201), ∀ a, (k0_off1871 v1201) a + S1x64.size a ≤ S1000000x64.size a := fun v1201 k0_hw767 => k0_hw767

def k0_off1872 (k0_t22 : Fin k0_t22_loop.trips) (c3_i32_685 : BitVec 32) : Fin 2 → Nat :=
  let c0_i32_104 : BitVec 32 := 0#32
  let c1_i32_106 : BitVec 32 := 1#32
  let arg13 : BitVec 32 := Scf.iv c0_i32_104 c1_i32_106 k0_t22
  let c16_i32_661 : BitVec 32 := 16#32
  let v1152 : BitVec 32 := Scalar.muli arg13 c16_i32_661
  let c15_i32 : BitVec 32 := 15#32
  let v1153 : BitVec 32 := Scalar.addi v1152 c15_i32
  let c5_i32_684 : BitVec 32 := 5#32
  let v1202 : BitVec 32 := Scalar.muli v1153 c5_i32_684
  let v1203 : BitVec 32 := Scalar.addi v1202 c3_i32_685
  let c0_i32_688 : BitVec 32 := 0#32
  ![v1203.toNat, 0]
def k0_off1873 (v1213 : BitVec 32) : Fin 2 → Nat :=
  let c0_i32_693 : BitVec 32 := 0#32
  ![v1213.toNat, 0]

def k0_chk768 (v1213 : BitVec 32) : Prop :=
  (∀ a, (k0_off1873 v1213) a + S1x64.size a ≤ S1000000x64.size a)
instance k0_chk768.dec : ∀ (v1213 : BitVec 32), Decidable (k0_chk768 v1213) := fun v1213 => decidable_of_iff' _ (Iff.of_eq (k0_chk768.eq_1 v1213))
theorem k0_off1873_inb : ∀ (v1213 : BitVec 32) (k0_hw768 : k0_chk768 v1213), ∀ a, (k0_off1873 v1213) a + S1x64.size a ≤ S1000000x64.size a := fun v1213 k0_hw768 => k0_hw768

def k0_off1874 (k0_t22 : Fin k0_t22_loop.trips) : Fin 2 → Nat :=
  let c0_i32_104 : BitVec 32 := 0#32
  let c1_i32_106 : BitVec 32 := 1#32
  let arg13 : BitVec 32 := Scf.iv c0_i32_104 c1_i32_106 k0_t22
  let c16_i32_661 : BitVec 32 := 16#32
  let v1152 : BitVec 32 := Scalar.muli arg13 c16_i32_661
  let c15_i32 : BitVec 32 := 15#32
  let v1153 : BitVec 32 := Scalar.addi v1152 c15_i32
  let c5_i32_690 : BitVec 32 := 5#32
  let v1214 : BitVec 32 := Scalar.muli v1153 c5_i32_690
  let c4_i32_691 : BitVec 32 := 4#32
  let v1215 : BitVec 32 := Scalar.addi v1214 c4_i32_691
  let c0_i32_694 : BitVec 32 := 0#32
  ![v1215.toNat, 0]
@[reducible] def k0_t23_loop : Scf.Loop 32 :=
  let c0_i32_109 : BitVec 32 := 0#32
  let c64_i32_110 : BitVec 32 := 64#32
  let v33 : BitVec 32 := Scalar.addi c0_i32_109 c64_i32_110
  let c1_i32_111 : BitVec 32 := 1#32
  ⟨c0_i32_109, v33, c1_i32_111⟩
@[reducible] def k0_t24_loop : Scf.Loop 32 :=
  let c0_i32_114 : BitVec 32 := 0#32
  let c64_i32_115 : BitVec 32 := 64#32
  let v34 : BitVec 32 := Scalar.addi c0_i32_114 c64_i32_115
  let c1_i32_116 : BitVec 32 := 1#32
  ⟨c0_i32_114, v34, c1_i32_116⟩
def k0_off1875 (k0_t24 : Fin k0_t24_loop.trips) : Fin 2 → Nat :=
  let c0_i32_114 : BitVec 32 := 0#32
  let c1_i32_116 : BitVec 32 := 1#32
  let arg13 : BitVec 32 := Scf.iv c0_i32_114 c1_i32_116 k0_t24
  let v37 : Index := Scalar.indexCast arg13
  let c0 : Index := 0#32
  ![v37.toNat, 0]
def k0_off1876 (k0_t24 : Fin k0_t24_loop.trips) : Fin 2 → Nat :=
  let c0_i32_114 : BitVec 32 := 0#32
  let c1_i32_116 : BitVec 32 := 1#32
  let arg13 : BitVec 32 := Scf.iv c0_i32_114 c1_i32_116 k0_t24
  let v40 : Index := Scalar.indexCast arg13
  let c16 : Index := 16#32
  ![v40.toNat, 16]
def k0_off1877 (k0_t24 : Fin k0_t24_loop.trips) : Fin 2 → Nat :=
  let c0_i32_114 : BitVec 32 := 0#32
  let c1_i32_116 : BitVec 32 := 1#32
  let arg13 : BitVec 32 := Scf.iv c0_i32_114 c1_i32_116 k0_t24
  let v43 : Index := Scalar.indexCast arg13
  let c32 : Index := 32#32
  ![v43.toNat, 32]
def k0_off1878 (k0_t24 : Fin k0_t24_loop.trips) : Fin 2 → Nat :=
  let c0_i32_114 : BitVec 32 := 0#32
  let c1_i32_116 : BitVec 32 := 1#32
  let arg13 : BitVec 32 := Scf.iv c0_i32_114 c1_i32_116 k0_t24
  let v46 : Index := Scalar.indexCast arg13
  let c48 : Index := 48#32
  ![v46.toNat, 48]
def k0_off1879 (k0_t24 : Fin k0_t24_loop.trips) (c0_i32_121 : BitVec 32) : Fin 2 → Nat :=
  let c0_i32_114 : BitVec 32 := 0#32
  let c1_i32_116 : BitVec 32 := 1#32
  let arg13 : BitVec 32 := Scf.iv c0_i32_114 c1_i32_116 k0_t24
  let c5_i32_120 : BitVec 32 := 5#32
  let v51 : BitVec 32 := Scalar.muli arg13 c5_i32_120
  let v52 : BitVec 32 := Scalar.addi v51 c0_i32_121
  let v53 : Index := Scalar.indexCast v52
  let c0_122 : Index := 0#32
  ![v53.toNat, 0]
def k0_off1880 (k0_t24 : Fin k0_t24_loop.trips) (c0_i32_121 : BitVec 32) : Fin 2 → Nat :=
  let c0_i32_114 : BitVec 32 := 0#32
  let c1_i32_116 : BitVec 32 := 1#32
  let arg13 : BitVec 32 := Scf.iv c0_i32_114 c1_i32_116 k0_t24
  let c5_i32_120 : BitVec 32 := 5#32
  let v51 : BitVec 32 := Scalar.muli arg13 c5_i32_120
  let v52 : BitVec 32 := Scalar.addi v51 c0_i32_121
  let v57 : Index := Scalar.indexCast v52
  let c16_123 : Index := 16#32
  ![v57.toNat, 16]
def k0_off1881 (k0_t24 : Fin k0_t24_loop.trips) (c0_i32_121 : BitVec 32) : Fin 2 → Nat :=
  let c0_i32_114 : BitVec 32 := 0#32
  let c1_i32_116 : BitVec 32 := 1#32
  let arg13 : BitVec 32 := Scf.iv c0_i32_114 c1_i32_116 k0_t24
  let c5_i32_120 : BitVec 32 := 5#32
  let v51 : BitVec 32 := Scalar.muli arg13 c5_i32_120
  let v52 : BitVec 32 := Scalar.addi v51 c0_i32_121
  let v62 : Index := Scalar.indexCast v52
  let c32_124 : Index := 32#32
  ![v62.toNat, 32]
def k0_off1882 (k0_t24 : Fin k0_t24_loop.trips) (c0_i32_121 : BitVec 32) : Fin 2 → Nat :=
  let c0_i32_114 : BitVec 32 := 0#32
  let c1_i32_116 : BitVec 32 := 1#32
  let arg13 : BitVec 32 := Scf.iv c0_i32_114 c1_i32_116 k0_t24
  let c5_i32_120 : BitVec 32 := 5#32
  let v51 : BitVec 32 := Scalar.muli arg13 c5_i32_120
  let v52 : BitVec 32 := Scalar.addi v51 c0_i32_121
  let v67 : Index := Scalar.indexCast v52
  let c48_125 : Index := 48#32
  ![v67.toNat, 48]
def k0_off1883 (k0_t24 : Fin k0_t24_loop.trips) (c0_i32_126 : BitVec 32) : Fin 1 → Nat :=
  let c448_i32_118 : BitVec 32 := 448#32
  let c0_i32_114 : BitVec 32 := 0#32
  let c1_i32_116 : BitVec 32 := 1#32
  let arg13 : BitVec 32 := Scf.iv c0_i32_114 c1_i32_116 k0_t24
  let v49 : BitVec 32 := Scalar.addi c448_i32_118 arg13
  let c80_i32_119 : BitVec 32 := 80#32
  let v50 : BitVec 32 := Scalar.muli v49 c80_i32_119
  let v74 : BitVec 32 := Scalar.addi v50 c0_i32_126
  let v75 : Index := Scalar.indexCast v74
  ![v75.toNat]
def k0_off1884 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c80_i32 : BitVec 32 := 80#32
  let v36 : BitVec 32 := Scalar.muli v2 c80_i32
  ![v36.toNat]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k1_off2 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_118_r1 : BitVec 32 := 0#32
  ![v3.toNat, 0]
@[reducible] def k1_t1_loop : Scf.Loop 32 :=
  let c0_i32_1 : BitVec 32 := 0#32
  let c4_i32 : BitVec 32 := 4#32
  let v4 : BitVec 32 := Scalar.addi c0_i32_1 c4_i32
  let c1_i32 : BitVec 32 := 1#32
  ⟨c0_i32_1, v4, c1_i32⟩
def k1_off3 (k1_t1 : Fin k1_t1_loop.trips) : Fin 1 → Nat :=
  let c0_i32_119 : BitVec 32 := 0#32
  let c0_i32_1 : BitVec 32 := 0#32
  let c1_i32 : BitVec 32 := 1#32
  let arg11 : BitVec 32 := Scf.iv c0_i32_1 c1_i32 k1_t1
  let c16_i32_118 : BitVec 32 := 16#32
  let v36 : BitVec 32 := Scalar.muli arg11 c16_i32_118
  let v37 : BitVec 32 := Scalar.addi c0_i32_119 v36
  let v38 : Index := Scalar.indexCast v37
  ![v38.toNat]
def k1_off4 (k1_t1 : Fin k1_t1_loop.trips) : Fin 2 → Nat :=
  let c0_i32_1 : BitVec 32 := 0#32
  let c1_i32 : BitVec 32 := 1#32
  let arg11 : BitVec 32 := Scf.iv c0_i32_1 c1_i32 k1_t1
  let c16_i32_120 : BitVec 32 := 16#32
  let v43 : BitVec 32 := Scalar.muli arg11 c16_i32_120
  let c0_i32_121 : BitVec 32 := 0#32
  let v44 : BitVec 32 := Scalar.addi v43 c0_i32_121
  let c0_i32_122 : BitVec 32 := 0#32
  ![v44.toNat, 0]
def k1_off5 (v42 : BitVec 32) : Fin 2 → Nat :=
  let c0_i32_123 : BitVec 32 := 0#32
  ![v42.toNat, 0]

def k1_chk1 (v42 : BitVec 32) : Prop :=
  (∀ a, (k1_off5 v42) a + S1x64.size a ≤ S1000000x64.size a)
instance k1_chk1.dec : ∀ (v42 : BitVec 32), Decidable (k1_chk1 v42) := fun v42 => decidable_of_iff' _ (Iff.of_eq (k1_chk1.eq_1 v42))
theorem k1_off5_inb : ∀ (v42 : BitVec 32) (k1_hw1 : k1_chk1 v42), ∀ a, (k1_off5 v42) a + S1x64.size a ≤ S1000000x64.size a := fun v42 k1_hw1 => k1_hw1

def k1_off6 (k1_t1 : Fin k1_t1_loop.trips) (c0_i32_121 : BitVec 32) : Fin 2 → Nat :=
  let c0_i32_1 : BitVec 32 := 0#32
  let c1_i32 : BitVec 32 := 1#32
  let arg11 : BitVec 32 := Scf.iv c0_i32_1 c1_i32 k1_t1
  let c16_i32_120 : BitVec 32 := 16#32
  let v43 : BitVec 32 := Scalar.muli arg11 c16_i32_120
  let v44 : BitVec 32 := Scalar.addi v43 c0_i32_121
  let c0_i32_124 : BitVec 32 := 0#32
  ![v44.toNat, 0]
def k1_off7 (v54 : BitVec 32) : Fin 2 → Nat :=
  let c0_i32_129 : BitVec 32 := 0#32
  ![v54.toNat, 0]

def k1_chk2 (v54 : BitVec 32) : Prop :=
  (∀ a, (k1_off7 v54) a + S1x64.size a ≤ S1000000x64.size a)
instance k1_chk2.dec : ∀ (v54 : BitVec 32), Decidable (k1_chk2 v54) := fun v54 => decidable_of_iff' _ (Iff.of_eq (k1_chk2.eq_1 v54))
theorem k1_off7_inb : ∀ (v54 : BitVec 32) (k1_hw2 : k1_chk2 v54), ∀ a, (k1_off7 v54) a + S1x64.size a ≤ S1000000x64.size a := fun v54 k1_hw2 => k1_hw2

def k1_off8 (k1_t1 : Fin k1_t1_loop.trips) (c1_i32_127 : BitVec 32) : Fin 2 → Nat :=
  let c0_i32_1 : BitVec 32 := 0#32
  let c1_i32 : BitVec 32 := 1#32
  let arg11 : BitVec 32 := Scf.iv c0_i32_1 c1_i32 k1_t1
  let c16_i32_126 : BitVec 32 := 16#32
  let v55 : BitVec 32 := Scalar.muli arg11 c16_i32_126
  let v56 : BitVec 32 := Scalar.addi v55 c1_i32_127
  let c0_i32_130 : BitVec 32 := 0#32
  ![v56.toNat, 0]
def k1_off9 (v66 : BitVec 32) : Fin 2 → Nat :=
  let c0_i32_135 : BitVec 32 := 0#32
  ![v66.toNat, 0]

def k1_chk3 (v66 : BitVec 32) : Prop :=
  (∀ a, (k1_off9 v66) a + S1x64.size a ≤ S1000000x64.size a)
instance k1_chk3.dec : ∀ (v66 : BitVec 32), Decidable (k1_chk3 v66) := fun v66 => decidable_of_iff' _ (Iff.of_eq (k1_chk3.eq_1 v66))
theorem k1_off9_inb : ∀ (v66 : BitVec 32) (k1_hw3 : k1_chk3 v66), ∀ a, (k1_off9 v66) a + S1x64.size a ≤ S1000000x64.size a := fun v66 k1_hw3 => k1_hw3

def k1_off10 (k1_t1 : Fin k1_t1_loop.trips) (c2_i32_133 : BitVec 32) : Fin 2 → Nat :=
  let c0_i32_1 : BitVec 32 := 0#32
  let c1_i32 : BitVec 32 := 1#32
  let arg11 : BitVec 32 := Scf.iv c0_i32_1 c1_i32 k1_t1
  let c16_i32_132 : BitVec 32 := 16#32
  let v67 : BitVec 32 := Scalar.muli arg11 c16_i32_132
  let v68 : BitVec 32 := Scalar.addi v67 c2_i32_133
  let c0_i32_136 : BitVec 32 := 0#32
  ![v68.toNat, 0]
def k1_off11 (v78 : BitVec 32) : Fin 2 → Nat :=
  let c0_i32_140 : BitVec 32 := 0#32
  ![v78.toNat, 0]

def k1_chk4 (v78 : BitVec 32) : Prop :=
  (∀ a, (k1_off11 v78) a + S1x64.size a ≤ S1000000x64.size a)
instance k1_chk4.dec : ∀ (v78 : BitVec 32), Decidable (k1_chk4 v78) := fun v78 => decidable_of_iff' _ (Iff.of_eq (k1_chk4.eq_1 v78))
theorem k1_off11_inb : ∀ (v78 : BitVec 32) (k1_hw4 : k1_chk4 v78), ∀ a, (k1_off11 v78) a + S1x64.size a ≤ S1000000x64.size a := fun v78 k1_hw4 => k1_hw4

def k1_off12 (k1_t1 : Fin k1_t1_loop.trips) (c3_i32 : BitVec 32) : Fin 2 → Nat :=
  let c0_i32_1 : BitVec 32 := 0#32
  let c1_i32 : BitVec 32 := 1#32
  let arg11 : BitVec 32 := Scf.iv c0_i32_1 c1_i32 k1_t1
  let c16_i32_138 : BitVec 32 := 16#32
  let v79 : BitVec 32 := Scalar.muli arg11 c16_i32_138
  let v80 : BitVec 32 := Scalar.addi v79 c3_i32
  let c0_i32_141 : BitVec 32 := 0#32
  ![v80.toNat, 0]
def k1_off13 (v90 : BitVec 32) : Fin 2 → Nat :=
  let c0_i32_146 : BitVec 32 := 0#32
  ![v90.toNat, 0]

def k1_chk5 (v90 : BitVec 32) : Prop :=
  (∀ a, (k1_off13 v90) a + S1x64.size a ≤ S1000000x64.size a)
instance k1_chk5.dec : ∀ (v90 : BitVec 32), Decidable (k1_chk5 v90) := fun v90 => decidable_of_iff' _ (Iff.of_eq (k1_chk5.eq_1 v90))
theorem k1_off13_inb : ∀ (v90 : BitVec 32) (k1_hw5 : k1_chk5 v90), ∀ a, (k1_off13 v90) a + S1x64.size a ≤ S1000000x64.size a := fun v90 k1_hw5 => k1_hw5

def k1_off14 (k1_t1 : Fin k1_t1_loop.trips) (c4_i32_144 : BitVec 32) : Fin 2 → Nat :=
  let c0_i32_1 : BitVec 32 := 0#32
  let c1_i32 : BitVec 32 := 1#32
  let arg11 : BitVec 32 := Scf.iv c0_i32_1 c1_i32 k1_t1
  let c16_i32_143 : BitVec 32 := 16#32
  let v91 : BitVec 32 := Scalar.muli arg11 c16_i32_143
  let v92 : BitVec 32 := Scalar.addi v91 c4_i32_144
  let c0_i32_147 : BitVec 32 := 0#32
  ![v92.toNat, 0]
def k1_off15 (v102 : BitVec 32) : Fin 2 → Nat :=
  let c0_i32_151 : BitVec 32 := 0#32
  ![v102.toNat, 0]

def k1_chk6 (v102 : BitVec 32) : Prop :=
  (∀ a, (k1_off15 v102) a + S1x64.size a ≤ S1000000x64.size a)
instance k1_chk6.dec : ∀ (v102 : BitVec 32), Decidable (k1_chk6 v102) := fun v102 => decidable_of_iff' _ (Iff.of_eq (k1_chk6.eq_1 v102))
theorem k1_off15_inb : ∀ (v102 : BitVec 32) (k1_hw6 : k1_chk6 v102), ∀ a, (k1_off15 v102) a + S1x64.size a ≤ S1000000x64.size a := fun v102 k1_hw6 => k1_hw6

def k1_off16 (k1_t1 : Fin k1_t1_loop.trips) (c5_i32 : BitVec 32) : Fin 2 → Nat :=
  let c0_i32_1 : BitVec 32 := 0#32
  let c1_i32 : BitVec 32 := 1#32
  let arg11 : BitVec 32 := Scf.iv c0_i32_1 c1_i32 k1_t1
  let c16_i32_149 : BitVec 32 := 16#32
  let v103 : BitVec 32 := Scalar.muli arg11 c16_i32_149
  let v104 : BitVec 32 := Scalar.addi v103 c5_i32
  let c0_i32_152 : BitVec 32 := 0#32
  ![v104.toNat, 0]
def k1_off17 (v114 : BitVec 32) : Fin 2 → Nat :=
  let c0_i32_156 : BitVec 32 := 0#32
  ![v114.toNat, 0]

def k1_chk7 (v114 : BitVec 32) : Prop :=
  (∀ a, (k1_off17 v114) a + S1x64.size a ≤ S1000000x64.size a)
instance k1_chk7.dec : ∀ (v114 : BitVec 32), Decidable (k1_chk7 v114) := fun v114 => decidable_of_iff' _ (Iff.of_eq (k1_chk7.eq_1 v114))
theorem k1_off17_inb : ∀ (v114 : BitVec 32) (k1_hw7 : k1_chk7 v114), ∀ a, (k1_off17 v114) a + S1x64.size a ≤ S1000000x64.size a := fun v114 k1_hw7 => k1_hw7

def k1_off18 (k1_t1 : Fin k1_t1_loop.trips) (c6_i32 : BitVec 32) : Fin 2 → Nat :=
  let c0_i32_1 : BitVec 32 := 0#32
  let c1_i32 : BitVec 32 := 1#32
  let arg11 : BitVec 32 := Scf.iv c0_i32_1 c1_i32 k1_t1
  let c16_i32_154 : BitVec 32 := 16#32
  let v115 : BitVec 32 := Scalar.muli arg11 c16_i32_154
  let v116 : BitVec 32 := Scalar.addi v115 c6_i32
  let c0_i32_157 : BitVec 32 := 0#32
  ![v116.toNat, 0]
def k1_off19 (v126 : BitVec 32) : Fin 2 → Nat :=
  let c0_i32_161 : BitVec 32 := 0#32
  ![v126.toNat, 0]

def k1_chk8 (v126 : BitVec 32) : Prop :=
  (∀ a, (k1_off19 v126) a + S1x64.size a ≤ S1000000x64.size a)
instance k1_chk8.dec : ∀ (v126 : BitVec 32), Decidable (k1_chk8 v126) := fun v126 => decidable_of_iff' _ (Iff.of_eq (k1_chk8.eq_1 v126))
theorem k1_off19_inb : ∀ (v126 : BitVec 32) (k1_hw8 : k1_chk8 v126), ∀ a, (k1_off19 v126) a + S1x64.size a ≤ S1000000x64.size a := fun v126 k1_hw8 => k1_hw8

def k1_off20 (k1_t1 : Fin k1_t1_loop.trips) (c7_i32 : BitVec 32) : Fin 2 → Nat :=
  let c0_i32_1 : BitVec 32 := 0#32
  let c1_i32 : BitVec 32 := 1#32
  let arg11 : BitVec 32 := Scf.iv c0_i32_1 c1_i32 k1_t1
  let c16_i32_159 : BitVec 32 := 16#32
  let v127 : BitVec 32 := Scalar.muli arg11 c16_i32_159
  let v128 : BitVec 32 := Scalar.addi v127 c7_i32
  let c0_i32_162 : BitVec 32 := 0#32
  ![v128.toNat, 0]
def k1_off21 (v138 : BitVec 32) : Fin 2 → Nat :=
  let c0_i32_166 : BitVec 32 := 0#32
  ![v138.toNat, 0]

def k1_chk9 (v138 : BitVec 32) : Prop :=
  (∀ a, (k1_off21 v138) a + S1x64.size a ≤ S1000000x64.size a)
instance k1_chk9.dec : ∀ (v138 : BitVec 32), Decidable (k1_chk9 v138) := fun v138 => decidable_of_iff' _ (Iff.of_eq (k1_chk9.eq_1 v138))
theorem k1_off21_inb : ∀ (v138 : BitVec 32) (k1_hw9 : k1_chk9 v138), ∀ a, (k1_off21 v138) a + S1x64.size a ≤ S1000000x64.size a := fun v138 k1_hw9 => k1_hw9

def k1_off22 (k1_t1 : Fin k1_t1_loop.trips) (c8_i32 : BitVec 32) : Fin 2 → Nat :=
  let c0_i32_1 : BitVec 32 := 0#32
  let c1_i32 : BitVec 32 := 1#32
  let arg11 : BitVec 32 := Scf.iv c0_i32_1 c1_i32 k1_t1
  let c16_i32_164 : BitVec 32 := 16#32
  let v139 : BitVec 32 := Scalar.muli arg11 c16_i32_164
  let v140 : BitVec 32 := Scalar.addi v139 c8_i32
  let c0_i32_167 : BitVec 32 := 0#32
  ![v140.toNat, 0]
def k1_off23 (v150 : BitVec 32) : Fin 2 → Nat :=
  let c0_i32_171 : BitVec 32 := 0#32
  ![v150.toNat, 0]

def k1_chk10 (v150 : BitVec 32) : Prop :=
  (∀ a, (k1_off23 v150) a + S1x64.size a ≤ S1000000x64.size a)
instance k1_chk10.dec : ∀ (v150 : BitVec 32), Decidable (k1_chk10 v150) := fun v150 => decidable_of_iff' _ (Iff.of_eq (k1_chk10.eq_1 v150))
theorem k1_off23_inb : ∀ (v150 : BitVec 32) (k1_hw10 : k1_chk10 v150), ∀ a, (k1_off23 v150) a + S1x64.size a ≤ S1000000x64.size a := fun v150 k1_hw10 => k1_hw10

def k1_off24 (k1_t1 : Fin k1_t1_loop.trips) (c9_i32 : BitVec 32) : Fin 2 → Nat :=
  let c0_i32_1 : BitVec 32 := 0#32
  let c1_i32 : BitVec 32 := 1#32
  let arg11 : BitVec 32 := Scf.iv c0_i32_1 c1_i32 k1_t1
  let c16_i32_169 : BitVec 32 := 16#32
  let v151 : BitVec 32 := Scalar.muli arg11 c16_i32_169
  let v152 : BitVec 32 := Scalar.addi v151 c9_i32
  let c0_i32_172 : BitVec 32 := 0#32
  ![v152.toNat, 0]
def k1_off25 (v162 : BitVec 32) : Fin 2 → Nat :=
  let c0_i32_176 : BitVec 32 := 0#32
  ![v162.toNat, 0]

def k1_chk11 (v162 : BitVec 32) : Prop :=
  (∀ a, (k1_off25 v162) a + S1x64.size a ≤ S1000000x64.size a)
instance k1_chk11.dec : ∀ (v162 : BitVec 32), Decidable (k1_chk11 v162) := fun v162 => decidable_of_iff' _ (Iff.of_eq (k1_chk11.eq_1 v162))
theorem k1_off25_inb : ∀ (v162 : BitVec 32) (k1_hw11 : k1_chk11 v162), ∀ a, (k1_off25 v162) a + S1x64.size a ≤ S1000000x64.size a := fun v162 k1_hw11 => k1_hw11

def k1_off26 (k1_t1 : Fin k1_t1_loop.trips) (c10_i32 : BitVec 32) : Fin 2 → Nat :=
  let c0_i32_1 : BitVec 32 := 0#32
  let c1_i32 : BitVec 32 := 1#32
  let arg11 : BitVec 32 := Scf.iv c0_i32_1 c1_i32 k1_t1
  let c16_i32_174 : BitVec 32 := 16#32
  let v163 : BitVec 32 := Scalar.muli arg11 c16_i32_174
  let v164 : BitVec 32 := Scalar.addi v163 c10_i32
  let c0_i32_177 : BitVec 32 := 0#32
  ![v164.toNat, 0]
def k1_off27 (v174 : BitVec 32) : Fin 2 → Nat :=
  let c0_i32_181 : BitVec 32 := 0#32
  ![v174.toNat, 0]

def k1_chk12 (v174 : BitVec 32) : Prop :=
  (∀ a, (k1_off27 v174) a + S1x64.size a ≤ S1000000x64.size a)
instance k1_chk12.dec : ∀ (v174 : BitVec 32), Decidable (k1_chk12 v174) := fun v174 => decidable_of_iff' _ (Iff.of_eq (k1_chk12.eq_1 v174))
theorem k1_off27_inb : ∀ (v174 : BitVec 32) (k1_hw12 : k1_chk12 v174), ∀ a, (k1_off27 v174) a + S1x64.size a ≤ S1000000x64.size a := fun v174 k1_hw12 => k1_hw12

def k1_off28 (k1_t1 : Fin k1_t1_loop.trips) (c11_i32 : BitVec 32) : Fin 2 → Nat :=
  let c0_i32_1 : BitVec 32 := 0#32
  let c1_i32 : BitVec 32 := 1#32
  let arg11 : BitVec 32 := Scf.iv c0_i32_1 c1_i32 k1_t1
  let c16_i32_179 : BitVec 32 := 16#32
  let v175 : BitVec 32 := Scalar.muli arg11 c16_i32_179
  let v176 : BitVec 32 := Scalar.addi v175 c11_i32
  let c0_i32_182 : BitVec 32 := 0#32
  ![v176.toNat, 0]
def k1_off29 (v186 : BitVec 32) : Fin 2 → Nat :=
  let c0_i32_186 : BitVec 32 := 0#32
  ![v186.toNat, 0]

def k1_chk13 (v186 : BitVec 32) : Prop :=
  (∀ a, (k1_off29 v186) a + S1x64.size a ≤ S1000000x64.size a)
instance k1_chk13.dec : ∀ (v186 : BitVec 32), Decidable (k1_chk13 v186) := fun v186 => decidable_of_iff' _ (Iff.of_eq (k1_chk13.eq_1 v186))
theorem k1_off29_inb : ∀ (v186 : BitVec 32) (k1_hw13 : k1_chk13 v186), ∀ a, (k1_off29 v186) a + S1x64.size a ≤ S1000000x64.size a := fun v186 k1_hw13 => k1_hw13

def k1_off30 (k1_t1 : Fin k1_t1_loop.trips) (c12_i32 : BitVec 32) : Fin 2 → Nat :=
  let c0_i32_1 : BitVec 32 := 0#32
  let c1_i32 : BitVec 32 := 1#32
  let arg11 : BitVec 32 := Scf.iv c0_i32_1 c1_i32 k1_t1
  let c16_i32_184 : BitVec 32 := 16#32
  let v187 : BitVec 32 := Scalar.muli arg11 c16_i32_184
  let v188 : BitVec 32 := Scalar.addi v187 c12_i32
  let c0_i32_187 : BitVec 32 := 0#32
  ![v188.toNat, 0]
def k1_off31 (v198 : BitVec 32) : Fin 2 → Nat :=
  let c0_i32_191 : BitVec 32 := 0#32
  ![v198.toNat, 0]

def k1_chk14 (v198 : BitVec 32) : Prop :=
  (∀ a, (k1_off31 v198) a + S1x64.size a ≤ S1000000x64.size a)
instance k1_chk14.dec : ∀ (v198 : BitVec 32), Decidable (k1_chk14 v198) := fun v198 => decidable_of_iff' _ (Iff.of_eq (k1_chk14.eq_1 v198))
theorem k1_off31_inb : ∀ (v198 : BitVec 32) (k1_hw14 : k1_chk14 v198), ∀ a, (k1_off31 v198) a + S1x64.size a ≤ S1000000x64.size a := fun v198 k1_hw14 => k1_hw14

def k1_off32 (k1_t1 : Fin k1_t1_loop.trips) (c13_i32 : BitVec 32) : Fin 2 → Nat :=
  let c0_i32_1 : BitVec 32 := 0#32
  let c1_i32 : BitVec 32 := 1#32
  let arg11 : BitVec 32 := Scf.iv c0_i32_1 c1_i32 k1_t1
  let c16_i32_189 : BitVec 32 := 16#32
  let v199 : BitVec 32 := Scalar.muli arg11 c16_i32_189
  let v200 : BitVec 32 := Scalar.addi v199 c13_i32
  let c0_i32_192 : BitVec 32 := 0#32
  ![v200.toNat, 0]
def k1_off33 (v210 : BitVec 32) : Fin 2 → Nat :=
  let c0_i32_196 : BitVec 32 := 0#32
  ![v210.toNat, 0]

def k1_chk15 (v210 : BitVec 32) : Prop :=
  (∀ a, (k1_off33 v210) a + S1x64.size a ≤ S1000000x64.size a)
instance k1_chk15.dec : ∀ (v210 : BitVec 32), Decidable (k1_chk15 v210) := fun v210 => decidable_of_iff' _ (Iff.of_eq (k1_chk15.eq_1 v210))
theorem k1_off33_inb : ∀ (v210 : BitVec 32) (k1_hw15 : k1_chk15 v210), ∀ a, (k1_off33 v210) a + S1x64.size a ≤ S1000000x64.size a := fun v210 k1_hw15 => k1_hw15

def k1_off34 (k1_t1 : Fin k1_t1_loop.trips) (c14_i32 : BitVec 32) : Fin 2 → Nat :=
  let c0_i32_1 : BitVec 32 := 0#32
  let c1_i32 : BitVec 32 := 1#32
  let arg11 : BitVec 32 := Scf.iv c0_i32_1 c1_i32 k1_t1
  let c16_i32_194 : BitVec 32 := 16#32
  let v211 : BitVec 32 := Scalar.muli arg11 c16_i32_194
  let v212 : BitVec 32 := Scalar.addi v211 c14_i32
  let c0_i32_197 : BitVec 32 := 0#32
  ![v212.toNat, 0]
def k1_off35 (v222 : BitVec 32) : Fin 2 → Nat :=
  let c0_i32_201 : BitVec 32 := 0#32
  ![v222.toNat, 0]

def k1_chk16 (v222 : BitVec 32) : Prop :=
  (∀ a, (k1_off35 v222) a + S1x64.size a ≤ S1000000x64.size a)
instance k1_chk16.dec : ∀ (v222 : BitVec 32), Decidable (k1_chk16 v222) := fun v222 => decidable_of_iff' _ (Iff.of_eq (k1_chk16.eq_1 v222))
theorem k1_off35_inb : ∀ (v222 : BitVec 32) (k1_hw16 : k1_chk16 v222), ∀ a, (k1_off35 v222) a + S1x64.size a ≤ S1000000x64.size a := fun v222 k1_hw16 => k1_hw16

def k1_off36 (k1_t1 : Fin k1_t1_loop.trips) : Fin 2 → Nat :=
  let c0_i32_1 : BitVec 32 := 0#32
  let c1_i32 : BitVec 32 := 1#32
  let arg11 : BitVec 32 := Scf.iv c0_i32_1 c1_i32 k1_t1
  let c16_i32_199 : BitVec 32 := 16#32
  let v223 : BitVec 32 := Scalar.muli arg11 c16_i32_199
  let c15_i32 : BitVec 32 := 15#32
  let v224 : BitVec 32 := Scalar.addi v223 c15_i32
  let c0_i32_202 : BitVec 32 := 0#32
  ![v224.toNat, 0]
@[reducible] def k1_t2_loop : Scf.Loop 32 :=
  let c0_i32_4 : BitVec 32 := 0#32
  let c64_i32 : BitVec 32 := 64#32
  let v5 : BitVec 32 := Scalar.addi c0_i32_4 c64_i32
  let c1_i32_5 : BitVec 32 := 1#32
  ⟨c0_i32_4, v5, c1_i32_5⟩
@[reducible] def k1_t3_loop : Scf.Loop 32 :=
  let c0_i32_8 : BitVec 32 := 0#32
  let c64_i32_9 : BitVec 32 := 64#32
  let v6 : BitVec 32 := Scalar.addi c0_i32_8 c64_i32_9
  let c1_i32_10 : BitVec 32 := 1#32
  ⟨c0_i32_8, v6, c1_i32_10⟩
def k1_off37 (k1_t3 : Fin k1_t3_loop.trips) : Fin 2 → Nat :=
  let c0_i32_8 : BitVec 32 := 0#32
  let c1_i32_10 : BitVec 32 := 1#32
  let arg11 : BitVec 32 := Scf.iv c0_i32_8 c1_i32_10 k1_t3
  let v36 : Index := Scalar.indexCast arg11
  let c0 : Index := 0#32
  ![v36.toNat, 0]
def k1_off38 (k1_t3 : Fin k1_t3_loop.trips) : Fin 2 → Nat :=
  let c0_i32_8 : BitVec 32 := 0#32
  let c1_i32_10 : BitVec 32 := 1#32
  let arg11 : BitVec 32 := Scf.iv c0_i32_8 c1_i32_10 k1_t3
  let v43 : Index := Scalar.indexCast arg11
  let c16 : Index := 16#32
  ![v43.toNat, 16]
def k1_off39 (k1_t3 : Fin k1_t3_loop.trips) : Fin 2 → Nat :=
  let c0_i32_8 : BitVec 32 := 0#32
  let c1_i32_10 : BitVec 32 := 1#32
  let arg11 : BitVec 32 := Scf.iv c0_i32_8 c1_i32_10 k1_t3
  let v51 : Index := Scalar.indexCast arg11
  let c32 : Index := 32#32
  ![v51.toNat, 32]
def k1_off40 (k1_t3 : Fin k1_t3_loop.trips) : Fin 2 → Nat :=
  let c0_i32_8 : BitVec 32 := 0#32
  let c1_i32_10 : BitVec 32 := 1#32
  let arg11 : BitVec 32 := Scf.iv c0_i32_8 c1_i32_10 k1_t3
  let v59 : Index := Scalar.indexCast arg11
  let c48 : Index := 48#32
  ![v59.toNat, 48]
def k1_off41 (k1_t3 : Fin k1_t3_loop.trips) : Fin 1 → Nat :=
  let c0_i32_122 : BitVec 32 := 0#32
  let c0_i32_8 : BitVec 32 := 0#32
  let c1_i32_10 : BitVec 32 := 1#32
  let arg11 : BitVec 32 := Scf.iv c0_i32_8 c1_i32_10 k1_t3
  let v67 : BitVec 32 := Scalar.addi c0_i32_122 arg11
  let c16_i32_123 : BitVec 32 := 16#32
  let v68 : BitVec 32 := Scalar.muli v67 c16_i32_123
  let v69 : Index := Scalar.indexCast v68
  ![v69.toNat]
@[reducible] def k1_t4_loop : Scf.Loop 32 :=
  let c0_i32_14 : BitVec 32 := 0#32
  let c4_i32_15 : BitVec 32 := 4#32
  let v8 : BitVec 32 := Scalar.addi c0_i32_14 c4_i32_15
  let c1_i32_16 : BitVec 32 := 1#32
  ⟨c0_i32_14, v8, c1_i32_16⟩
def k1_off42 (k1_t4 : Fin k1_t4_loop.trips) : Fin 1 → Nat :=
  let c64_i32_119 : BitVec 32 := 64#32
  let c0_i32_14 : BitVec 32 := 0#32
  let c1_i32_16 : BitVec 32 := 1#32
  let arg11 : BitVec 32 := Scf.iv c0_i32_14 c1_i32_16 k1_t4
  let c16_i32_118 : BitVec 32 := 16#32
  let v36 : BitVec 32 := Scalar.muli arg11 c16_i32_118
  let v37 : BitVec 32 := Scalar.addi c64_i32_119 v36
  let v38 : Index := Scalar.indexCast v37
  ![v38.toNat]
def k1_off43 (k1_t4 : Fin k1_t4_loop.trips) : Fin 2 → Nat :=
  let c0_i32_14 : BitVec 32 := 0#32
  let c1_i32_16 : BitVec 32 := 1#32
  let arg11 : BitVec 32 := Scf.iv c0_i32_14 c1_i32_16 k1_t4
  let c16_i32_120 : BitVec 32 := 16#32
  let v43 : BitVec 32 := Scalar.muli arg11 c16_i32_120
  let c0_i32_121 : BitVec 32 := 0#32
  let v44 : BitVec 32 := Scalar.addi v43 c0_i32_121
  let c0_i32_122 : BitVec 32 := 0#32
  ![v44.toNat, 0]
def k1_off44 (v42 : BitVec 32) : Fin 2 → Nat :=
  let c0_i32_123 : BitVec 32 := 0#32
  ![v42.toNat, 0]

def k1_chk17 (v42 : BitVec 32) : Prop :=
  (∀ a, (k1_off44 v42) a + S1x64.size a ≤ S1000000x64.size a)
instance k1_chk17.dec : ∀ (v42 : BitVec 32), Decidable (k1_chk17 v42) := fun v42 => decidable_of_iff' _ (Iff.of_eq (k1_chk17.eq_1 v42))
theorem k1_off44_inb : ∀ (v42 : BitVec 32) (k1_hw17 : k1_chk17 v42), ∀ a, (k1_off44 v42) a + S1x64.size a ≤ S1000000x64.size a := fun v42 k1_hw17 => k1_hw17

def k1_off45 (k1_t4 : Fin k1_t4_loop.trips) (c0_i32_121 : BitVec 32) : Fin 2 → Nat :=
  let c0_i32_14 : BitVec 32 := 0#32
  let c1_i32_16 : BitVec 32 := 1#32
  let arg11 : BitVec 32 := Scf.iv c0_i32_14 c1_i32_16 k1_t4
  let c16_i32_120 : BitVec 32 := 16#32
  let v43 : BitVec 32 := Scalar.muli arg11 c16_i32_120
  let v44 : BitVec 32 := Scalar.addi v43 c0_i32_121
  let c0_i32_124 : BitVec 32 := 0#32
  ![v44.toNat, 0]
def k1_off46 (v54 : BitVec 32) : Fin 2 → Nat :=
  let c0_i32_129 : BitVec 32 := 0#32
  ![v54.toNat, 0]

def k1_chk18 (v54 : BitVec 32) : Prop :=
  (∀ a, (k1_off46 v54) a + S1x64.size a ≤ S1000000x64.size a)
instance k1_chk18.dec : ∀ (v54 : BitVec 32), Decidable (k1_chk18 v54) := fun v54 => decidable_of_iff' _ (Iff.of_eq (k1_chk18.eq_1 v54))
theorem k1_off46_inb : ∀ (v54 : BitVec 32) (k1_hw18 : k1_chk18 v54), ∀ a, (k1_off46 v54) a + S1x64.size a ≤ S1000000x64.size a := fun v54 k1_hw18 => k1_hw18

def k1_off47 (k1_t4 : Fin k1_t4_loop.trips) (c1_i32_127 : BitVec 32) : Fin 2 → Nat :=
  let c0_i32_14 : BitVec 32 := 0#32
  let c1_i32_16 : BitVec 32 := 1#32
  let arg11 : BitVec 32 := Scf.iv c0_i32_14 c1_i32_16 k1_t4
  let c16_i32_126 : BitVec 32 := 16#32
  let v55 : BitVec 32 := Scalar.muli arg11 c16_i32_126
  let v56 : BitVec 32 := Scalar.addi v55 c1_i32_127
  let c0_i32_130 : BitVec 32 := 0#32
  ![v56.toNat, 0]
def k1_off48 (v66 : BitVec 32) : Fin 2 → Nat :=
  let c0_i32_135 : BitVec 32 := 0#32
  ![v66.toNat, 0]

def k1_chk19 (v66 : BitVec 32) : Prop :=
  (∀ a, (k1_off48 v66) a + S1x64.size a ≤ S1000000x64.size a)
instance k1_chk19.dec : ∀ (v66 : BitVec 32), Decidable (k1_chk19 v66) := fun v66 => decidable_of_iff' _ (Iff.of_eq (k1_chk19.eq_1 v66))
theorem k1_off48_inb : ∀ (v66 : BitVec 32) (k1_hw19 : k1_chk19 v66), ∀ a, (k1_off48 v66) a + S1x64.size a ≤ S1000000x64.size a := fun v66 k1_hw19 => k1_hw19

def k1_off49 (k1_t4 : Fin k1_t4_loop.trips) (c2_i32_133 : BitVec 32) : Fin 2 → Nat :=
  let c0_i32_14 : BitVec 32 := 0#32
  let c1_i32_16 : BitVec 32 := 1#32
  let arg11 : BitVec 32 := Scf.iv c0_i32_14 c1_i32_16 k1_t4
  let c16_i32_132 : BitVec 32 := 16#32
  let v67 : BitVec 32 := Scalar.muli arg11 c16_i32_132
  let v68 : BitVec 32 := Scalar.addi v67 c2_i32_133
  let c0_i32_136 : BitVec 32 := 0#32
  ![v68.toNat, 0]
def k1_off50 (v78 : BitVec 32) : Fin 2 → Nat :=
  let c0_i32_140 : BitVec 32 := 0#32
  ![v78.toNat, 0]

def k1_chk20 (v78 : BitVec 32) : Prop :=
  (∀ a, (k1_off50 v78) a + S1x64.size a ≤ S1000000x64.size a)
instance k1_chk20.dec : ∀ (v78 : BitVec 32), Decidable (k1_chk20 v78) := fun v78 => decidable_of_iff' _ (Iff.of_eq (k1_chk20.eq_1 v78))
theorem k1_off50_inb : ∀ (v78 : BitVec 32) (k1_hw20 : k1_chk20 v78), ∀ a, (k1_off50 v78) a + S1x64.size a ≤ S1000000x64.size a := fun v78 k1_hw20 => k1_hw20

def k1_off51 (k1_t4 : Fin k1_t4_loop.trips) (c3_i32 : BitVec 32) : Fin 2 → Nat :=
  let c0_i32_14 : BitVec 32 := 0#32
  let c1_i32_16 : BitVec 32 := 1#32
  let arg11 : BitVec 32 := Scf.iv c0_i32_14 c1_i32_16 k1_t4
  let c16_i32_138 : BitVec 32 := 16#32
  let v79 : BitVec 32 := Scalar.muli arg11 c16_i32_138
  let v80 : BitVec 32 := Scalar.addi v79 c3_i32
  let c0_i32_141 : BitVec 32 := 0#32
  ![v80.toNat, 0]
def k1_off52 (v90 : BitVec 32) : Fin 2 → Nat :=
  let c0_i32_146 : BitVec 32 := 0#32
  ![v90.toNat, 0]

def k1_chk21 (v90 : BitVec 32) : Prop :=
  (∀ a, (k1_off52 v90) a + S1x64.size a ≤ S1000000x64.size a)
instance k1_chk21.dec : ∀ (v90 : BitVec 32), Decidable (k1_chk21 v90) := fun v90 => decidable_of_iff' _ (Iff.of_eq (k1_chk21.eq_1 v90))
theorem k1_off52_inb : ∀ (v90 : BitVec 32) (k1_hw21 : k1_chk21 v90), ∀ a, (k1_off52 v90) a + S1x64.size a ≤ S1000000x64.size a := fun v90 k1_hw21 => k1_hw21

def k1_off53 (k1_t4 : Fin k1_t4_loop.trips) (c4_i32_144 : BitVec 32) : Fin 2 → Nat :=
  let c0_i32_14 : BitVec 32 := 0#32
  let c1_i32_16 : BitVec 32 := 1#32
  let arg11 : BitVec 32 := Scf.iv c0_i32_14 c1_i32_16 k1_t4
  let c16_i32_143 : BitVec 32 := 16#32
  let v91 : BitVec 32 := Scalar.muli arg11 c16_i32_143
  let v92 : BitVec 32 := Scalar.addi v91 c4_i32_144
  let c0_i32_147 : BitVec 32 := 0#32
  ![v92.toNat, 0]
def k1_off54 (v102 : BitVec 32) : Fin 2 → Nat :=
  let c0_i32_151 : BitVec 32 := 0#32
  ![v102.toNat, 0]

def k1_chk22 (v102 : BitVec 32) : Prop :=
  (∀ a, (k1_off54 v102) a + S1x64.size a ≤ S1000000x64.size a)
instance k1_chk22.dec : ∀ (v102 : BitVec 32), Decidable (k1_chk22 v102) := fun v102 => decidable_of_iff' _ (Iff.of_eq (k1_chk22.eq_1 v102))
theorem k1_off54_inb : ∀ (v102 : BitVec 32) (k1_hw22 : k1_chk22 v102), ∀ a, (k1_off54 v102) a + S1x64.size a ≤ S1000000x64.size a := fun v102 k1_hw22 => k1_hw22

def k1_off55 (k1_t4 : Fin k1_t4_loop.trips) (c5_i32 : BitVec 32) : Fin 2 → Nat :=
  let c0_i32_14 : BitVec 32 := 0#32
  let c1_i32_16 : BitVec 32 := 1#32
  let arg11 : BitVec 32 := Scf.iv c0_i32_14 c1_i32_16 k1_t4
  let c16_i32_149 : BitVec 32 := 16#32
  let v103 : BitVec 32 := Scalar.muli arg11 c16_i32_149
  let v104 : BitVec 32 := Scalar.addi v103 c5_i32
  let c0_i32_152 : BitVec 32 := 0#32
  ![v104.toNat, 0]
def k1_off56 (v114 : BitVec 32) : Fin 2 → Nat :=
  let c0_i32_156 : BitVec 32 := 0#32
  ![v114.toNat, 0]

def k1_chk23 (v114 : BitVec 32) : Prop :=
  (∀ a, (k1_off56 v114) a + S1x64.size a ≤ S1000000x64.size a)
instance k1_chk23.dec : ∀ (v114 : BitVec 32), Decidable (k1_chk23 v114) := fun v114 => decidable_of_iff' _ (Iff.of_eq (k1_chk23.eq_1 v114))
theorem k1_off56_inb : ∀ (v114 : BitVec 32) (k1_hw23 : k1_chk23 v114), ∀ a, (k1_off56 v114) a + S1x64.size a ≤ S1000000x64.size a := fun v114 k1_hw23 => k1_hw23

def k1_off57 (k1_t4 : Fin k1_t4_loop.trips) (c6_i32 : BitVec 32) : Fin 2 → Nat :=
  let c0_i32_14 : BitVec 32 := 0#32
  let c1_i32_16 : BitVec 32 := 1#32
  let arg11 : BitVec 32 := Scf.iv c0_i32_14 c1_i32_16 k1_t4
  let c16_i32_154 : BitVec 32 := 16#32
  let v115 : BitVec 32 := Scalar.muli arg11 c16_i32_154
  let v116 : BitVec 32 := Scalar.addi v115 c6_i32
  let c0_i32_157 : BitVec 32 := 0#32
  ![v116.toNat, 0]
def k1_off58 (v126 : BitVec 32) : Fin 2 → Nat :=
  let c0_i32_161 : BitVec 32 := 0#32
  ![v126.toNat, 0]

def k1_chk24 (v126 : BitVec 32) : Prop :=
  (∀ a, (k1_off58 v126) a + S1x64.size a ≤ S1000000x64.size a)
instance k1_chk24.dec : ∀ (v126 : BitVec 32), Decidable (k1_chk24 v126) := fun v126 => decidable_of_iff' _ (Iff.of_eq (k1_chk24.eq_1 v126))
theorem k1_off58_inb : ∀ (v126 : BitVec 32) (k1_hw24 : k1_chk24 v126), ∀ a, (k1_off58 v126) a + S1x64.size a ≤ S1000000x64.size a := fun v126 k1_hw24 => k1_hw24

def k1_off59 (k1_t4 : Fin k1_t4_loop.trips) (c7_i32 : BitVec 32) : Fin 2 → Nat :=
  let c0_i32_14 : BitVec 32 := 0#32
  let c1_i32_16 : BitVec 32 := 1#32
  let arg11 : BitVec 32 := Scf.iv c0_i32_14 c1_i32_16 k1_t4
  let c16_i32_159 : BitVec 32 := 16#32
  let v127 : BitVec 32 := Scalar.muli arg11 c16_i32_159
  let v128 : BitVec 32 := Scalar.addi v127 c7_i32
  let c0_i32_162 : BitVec 32 := 0#32
  ![v128.toNat, 0]
def k1_off60 (v138 : BitVec 32) : Fin 2 → Nat :=
  let c0_i32_166 : BitVec 32 := 0#32
  ![v138.toNat, 0]

def k1_chk25 (v138 : BitVec 32) : Prop :=
  (∀ a, (k1_off60 v138) a + S1x64.size a ≤ S1000000x64.size a)
instance k1_chk25.dec : ∀ (v138 : BitVec 32), Decidable (k1_chk25 v138) := fun v138 => decidable_of_iff' _ (Iff.of_eq (k1_chk25.eq_1 v138))
theorem k1_off60_inb : ∀ (v138 : BitVec 32) (k1_hw25 : k1_chk25 v138), ∀ a, (k1_off60 v138) a + S1x64.size a ≤ S1000000x64.size a := fun v138 k1_hw25 => k1_hw25

def k1_off61 (k1_t4 : Fin k1_t4_loop.trips) (c8_i32 : BitVec 32) : Fin 2 → Nat :=
  let c0_i32_14 : BitVec 32 := 0#32
  let c1_i32_16 : BitVec 32 := 1#32
  let arg11 : BitVec 32 := Scf.iv c0_i32_14 c1_i32_16 k1_t4
  let c16_i32_164 : BitVec 32 := 16#32
  let v139 : BitVec 32 := Scalar.muli arg11 c16_i32_164
  let v140 : BitVec 32 := Scalar.addi v139 c8_i32
  let c0_i32_167 : BitVec 32 := 0#32
  ![v140.toNat, 0]
def k1_off62 (v150 : BitVec 32) : Fin 2 → Nat :=
  let c0_i32_171 : BitVec 32 := 0#32
  ![v150.toNat, 0]

def k1_chk26 (v150 : BitVec 32) : Prop :=
  (∀ a, (k1_off62 v150) a + S1x64.size a ≤ S1000000x64.size a)
instance k1_chk26.dec : ∀ (v150 : BitVec 32), Decidable (k1_chk26 v150) := fun v150 => decidable_of_iff' _ (Iff.of_eq (k1_chk26.eq_1 v150))
theorem k1_off62_inb : ∀ (v150 : BitVec 32) (k1_hw26 : k1_chk26 v150), ∀ a, (k1_off62 v150) a + S1x64.size a ≤ S1000000x64.size a := fun v150 k1_hw26 => k1_hw26

def k1_off63 (k1_t4 : Fin k1_t4_loop.trips) (c9_i32 : BitVec 32) : Fin 2 → Nat :=
  let c0_i32_14 : BitVec 32 := 0#32
  let c1_i32_16 : BitVec 32 := 1#32
  let arg11 : BitVec 32 := Scf.iv c0_i32_14 c1_i32_16 k1_t4
  let c16_i32_169 : BitVec 32 := 16#32
  let v151 : BitVec 32 := Scalar.muli arg11 c16_i32_169
  let v152 : BitVec 32 := Scalar.addi v151 c9_i32
  let c0_i32_172 : BitVec 32 := 0#32
  ![v152.toNat, 0]
def k1_off64 (v162 : BitVec 32) : Fin 2 → Nat :=
  let c0_i32_176 : BitVec 32 := 0#32
  ![v162.toNat, 0]

def k1_chk27 (v162 : BitVec 32) : Prop :=
  (∀ a, (k1_off64 v162) a + S1x64.size a ≤ S1000000x64.size a)
instance k1_chk27.dec : ∀ (v162 : BitVec 32), Decidable (k1_chk27 v162) := fun v162 => decidable_of_iff' _ (Iff.of_eq (k1_chk27.eq_1 v162))
theorem k1_off64_inb : ∀ (v162 : BitVec 32) (k1_hw27 : k1_chk27 v162), ∀ a, (k1_off64 v162) a + S1x64.size a ≤ S1000000x64.size a := fun v162 k1_hw27 => k1_hw27

def k1_off65 (k1_t4 : Fin k1_t4_loop.trips) (c10_i32 : BitVec 32) : Fin 2 → Nat :=
  let c0_i32_14 : BitVec 32 := 0#32
  let c1_i32_16 : BitVec 32 := 1#32
  let arg11 : BitVec 32 := Scf.iv c0_i32_14 c1_i32_16 k1_t4
  let c16_i32_174 : BitVec 32 := 16#32
  let v163 : BitVec 32 := Scalar.muli arg11 c16_i32_174
  let v164 : BitVec 32 := Scalar.addi v163 c10_i32
  let c0_i32_177 : BitVec 32 := 0#32
  ![v164.toNat, 0]
def k1_off66 (v174 : BitVec 32) : Fin 2 → Nat :=
  let c0_i32_181 : BitVec 32 := 0#32
  ![v174.toNat, 0]

def k1_chk28 (v174 : BitVec 32) : Prop :=
  (∀ a, (k1_off66 v174) a + S1x64.size a ≤ S1000000x64.size a)
instance k1_chk28.dec : ∀ (v174 : BitVec 32), Decidable (k1_chk28 v174) := fun v174 => decidable_of_iff' _ (Iff.of_eq (k1_chk28.eq_1 v174))
theorem k1_off66_inb : ∀ (v174 : BitVec 32) (k1_hw28 : k1_chk28 v174), ∀ a, (k1_off66 v174) a + S1x64.size a ≤ S1000000x64.size a := fun v174 k1_hw28 => k1_hw28

def k1_off67 (k1_t4 : Fin k1_t4_loop.trips) (c11_i32 : BitVec 32) : Fin 2 → Nat :=
  let c0_i32_14 : BitVec 32 := 0#32
  let c1_i32_16 : BitVec 32 := 1#32
  let arg11 : BitVec 32 := Scf.iv c0_i32_14 c1_i32_16 k1_t4
  let c16_i32_179 : BitVec 32 := 16#32
  let v175 : BitVec 32 := Scalar.muli arg11 c16_i32_179
  let v176 : BitVec 32 := Scalar.addi v175 c11_i32
  let c0_i32_182 : BitVec 32 := 0#32
  ![v176.toNat, 0]
def k1_off68 (v186 : BitVec 32) : Fin 2 → Nat :=
  let c0_i32_186 : BitVec 32 := 0#32
  ![v186.toNat, 0]

def k1_chk29 (v186 : BitVec 32) : Prop :=
  (∀ a, (k1_off68 v186) a + S1x64.size a ≤ S1000000x64.size a)
instance k1_chk29.dec : ∀ (v186 : BitVec 32), Decidable (k1_chk29 v186) := fun v186 => decidable_of_iff' _ (Iff.of_eq (k1_chk29.eq_1 v186))
theorem k1_off68_inb : ∀ (v186 : BitVec 32) (k1_hw29 : k1_chk29 v186), ∀ a, (k1_off68 v186) a + S1x64.size a ≤ S1000000x64.size a := fun v186 k1_hw29 => k1_hw29

def k1_off69 (k1_t4 : Fin k1_t4_loop.trips) (c12_i32 : BitVec 32) : Fin 2 → Nat :=
  let c0_i32_14 : BitVec 32 := 0#32
  let c1_i32_16 : BitVec 32 := 1#32
  let arg11 : BitVec 32 := Scf.iv c0_i32_14 c1_i32_16 k1_t4
  let c16_i32_184 : BitVec 32 := 16#32
  let v187 : BitVec 32 := Scalar.muli arg11 c16_i32_184
  let v188 : BitVec 32 := Scalar.addi v187 c12_i32
  let c0_i32_187 : BitVec 32 := 0#32
  ![v188.toNat, 0]
def k1_off70 (v198 : BitVec 32) : Fin 2 → Nat :=
  let c0_i32_191 : BitVec 32 := 0#32
  ![v198.toNat, 0]

def k1_chk30 (v198 : BitVec 32) : Prop :=
  (∀ a, (k1_off70 v198) a + S1x64.size a ≤ S1000000x64.size a)
instance k1_chk30.dec : ∀ (v198 : BitVec 32), Decidable (k1_chk30 v198) := fun v198 => decidable_of_iff' _ (Iff.of_eq (k1_chk30.eq_1 v198))
theorem k1_off70_inb : ∀ (v198 : BitVec 32) (k1_hw30 : k1_chk30 v198), ∀ a, (k1_off70 v198) a + S1x64.size a ≤ S1000000x64.size a := fun v198 k1_hw30 => k1_hw30

def k1_off71 (k1_t4 : Fin k1_t4_loop.trips) (c13_i32 : BitVec 32) : Fin 2 → Nat :=
  let c0_i32_14 : BitVec 32 := 0#32
  let c1_i32_16 : BitVec 32 := 1#32
  let arg11 : BitVec 32 := Scf.iv c0_i32_14 c1_i32_16 k1_t4
  let c16_i32_189 : BitVec 32 := 16#32
  let v199 : BitVec 32 := Scalar.muli arg11 c16_i32_189
  let v200 : BitVec 32 := Scalar.addi v199 c13_i32
  let c0_i32_192 : BitVec 32 := 0#32
  ![v200.toNat, 0]
def k1_off72 (v210 : BitVec 32) : Fin 2 → Nat :=
  let c0_i32_196 : BitVec 32 := 0#32
  ![v210.toNat, 0]

def k1_chk31 (v210 : BitVec 32) : Prop :=
  (∀ a, (k1_off72 v210) a + S1x64.size a ≤ S1000000x64.size a)
instance k1_chk31.dec : ∀ (v210 : BitVec 32), Decidable (k1_chk31 v210) := fun v210 => decidable_of_iff' _ (Iff.of_eq (k1_chk31.eq_1 v210))
theorem k1_off72_inb : ∀ (v210 : BitVec 32) (k1_hw31 : k1_chk31 v210), ∀ a, (k1_off72 v210) a + S1x64.size a ≤ S1000000x64.size a := fun v210 k1_hw31 => k1_hw31

def k1_off73 (k1_t4 : Fin k1_t4_loop.trips) (c14_i32 : BitVec 32) : Fin 2 → Nat :=
  let c0_i32_14 : BitVec 32 := 0#32
  let c1_i32_16 : BitVec 32 := 1#32
  let arg11 : BitVec 32 := Scf.iv c0_i32_14 c1_i32_16 k1_t4
  let c16_i32_194 : BitVec 32 := 16#32
  let v211 : BitVec 32 := Scalar.muli arg11 c16_i32_194
  let v212 : BitVec 32 := Scalar.addi v211 c14_i32
  let c0_i32_197 : BitVec 32 := 0#32
  ![v212.toNat, 0]
def k1_off74 (v222 : BitVec 32) : Fin 2 → Nat :=
  let c0_i32_201 : BitVec 32 := 0#32
  ![v222.toNat, 0]

def k1_chk32 (v222 : BitVec 32) : Prop :=
  (∀ a, (k1_off74 v222) a + S1x64.size a ≤ S1000000x64.size a)
instance k1_chk32.dec : ∀ (v222 : BitVec 32), Decidable (k1_chk32 v222) := fun v222 => decidable_of_iff' _ (Iff.of_eq (k1_chk32.eq_1 v222))
theorem k1_off74_inb : ∀ (v222 : BitVec 32) (k1_hw32 : k1_chk32 v222), ∀ a, (k1_off74 v222) a + S1x64.size a ≤ S1000000x64.size a := fun v222 k1_hw32 => k1_hw32

def k1_off75 (k1_t4 : Fin k1_t4_loop.trips) : Fin 2 → Nat :=
  let c0_i32_14 : BitVec 32 := 0#32
  let c1_i32_16 : BitVec 32 := 1#32
  let arg11 : BitVec 32 := Scf.iv c0_i32_14 c1_i32_16 k1_t4
  let c16_i32_199 : BitVec 32 := 16#32
  let v223 : BitVec 32 := Scalar.muli arg11 c16_i32_199
  let c15_i32 : BitVec 32 := 15#32
  let v224 : BitVec 32 := Scalar.addi v223 c15_i32
  let c0_i32_202 : BitVec 32 := 0#32
  ![v224.toNat, 0]
@[reducible] def k1_t5_loop : Scf.Loop 32 :=
  let c0_i32_19 : BitVec 32 := 0#32
  let c64_i32_20 : BitVec 32 := 64#32
  let v9 : BitVec 32 := Scalar.addi c0_i32_19 c64_i32_20
  let c1_i32_21 : BitVec 32 := 1#32
  ⟨c0_i32_19, v9, c1_i32_21⟩
@[reducible] def k1_t6_loop : Scf.Loop 32 :=
  let c0_i32_24 : BitVec 32 := 0#32
  let c64_i32_25 : BitVec 32 := 64#32
  let v10 : BitVec 32 := Scalar.addi c0_i32_24 c64_i32_25
  let c1_i32_26 : BitVec 32 := 1#32
  ⟨c0_i32_24, v10, c1_i32_26⟩
def k1_off76 (k1_t6 : Fin k1_t6_loop.trips) : Fin 2 → Nat :=
  let c0_i32_24 : BitVec 32 := 0#32
  let c1_i32_26 : BitVec 32 := 1#32
  let arg11 : BitVec 32 := Scf.iv c0_i32_24 c1_i32_26 k1_t6
  let v36 : Index := Scalar.indexCast arg11
  let c0 : Index := 0#32
  ![v36.toNat, 0]
def k1_off77 (k1_t6 : Fin k1_t6_loop.trips) : Fin 2 → Nat :=
  let c0_i32_24 : BitVec 32 := 0#32
  let c1_i32_26 : BitVec 32 := 1#32
  let arg11 : BitVec 32 := Scf.iv c0_i32_24 c1_i32_26 k1_t6
  let v43 : Index := Scalar.indexCast arg11
  let c16 : Index := 16#32
  ![v43.toNat, 16]
def k1_off78 (k1_t6 : Fin k1_t6_loop.trips) : Fin 2 → Nat :=
  let c0_i32_24 : BitVec 32 := 0#32
  let c1_i32_26 : BitVec 32 := 1#32
  let arg11 : BitVec 32 := Scf.iv c0_i32_24 c1_i32_26 k1_t6
  let v51 : Index := Scalar.indexCast arg11
  let c32 : Index := 32#32
  ![v51.toNat, 32]
def k1_off79 (k1_t6 : Fin k1_t6_loop.trips) : Fin 2 → Nat :=
  let c0_i32_24 : BitVec 32 := 0#32
  let c1_i32_26 : BitVec 32 := 1#32
  let arg11 : BitVec 32 := Scf.iv c0_i32_24 c1_i32_26 k1_t6
  let v59 : Index := Scalar.indexCast arg11
  let c48 : Index := 48#32
  ![v59.toNat, 48]
def k1_off80 (k1_t6 : Fin k1_t6_loop.trips) : Fin 1 → Nat :=
  let c64_i32_122 : BitVec 32 := 64#32
  let c0_i32_24 : BitVec 32 := 0#32
  let c1_i32_26 : BitVec 32 := 1#32
  let arg11 : BitVec 32 := Scf.iv c0_i32_24 c1_i32_26 k1_t6
  let v67 : BitVec 32 := Scalar.addi c64_i32_122 arg11
  let c16_i32_123 : BitVec 32 := 16#32
  let v68 : BitVec 32 := Scalar.muli v67 c16_i32_123
  let v69 : Index := Scalar.indexCast v68
  ![v69.toNat]
@[reducible] def k1_t7_loop : Scf.Loop 32 :=
  let c0_i32_29 : BitVec 32 := 0#32
  let c4_i32_30 : BitVec 32 := 4#32
  let v12 : BitVec 32 := Scalar.addi c0_i32_29 c4_i32_30
  let c1_i32_31 : BitVec 32 := 1#32
  ⟨c0_i32_29, v12, c1_i32_31⟩
def k1_off81 (k1_t7 : Fin k1_t7_loop.trips) : Fin 1 → Nat :=
  let c128_i32_119 : BitVec 32 := 128#32
  let c0_i32_29 : BitVec 32 := 0#32
  let c1_i32_31 : BitVec 32 := 1#32
  let arg11 : BitVec 32 := Scf.iv c0_i32_29 c1_i32_31 k1_t7
  let c16_i32_118 : BitVec 32 := 16#32
  let v36 : BitVec 32 := Scalar.muli arg11 c16_i32_118
  let v37 : BitVec 32 := Scalar.addi c128_i32_119 v36
  let v38 : Index := Scalar.indexCast v37
  ![v38.toNat]
def k1_off82 (k1_t7 : Fin k1_t7_loop.trips) : Fin 2 → Nat :=
  let c0_i32_29 : BitVec 32 := 0#32
  let c1_i32_31 : BitVec 32 := 1#32
  let arg11 : BitVec 32 := Scf.iv c0_i32_29 c1_i32_31 k1_t7
  let c16_i32_120 : BitVec 32 := 16#32
  let v43 : BitVec 32 := Scalar.muli arg11 c16_i32_120
  let c0_i32_121 : BitVec 32 := 0#32
  let v44 : BitVec 32 := Scalar.addi v43 c0_i32_121
  let c0_i32_122 : BitVec 32 := 0#32
  ![v44.toNat, 0]
def k1_off83 (v42 : BitVec 32) : Fin 2 → Nat :=
  let c0_i32_123 : BitVec 32 := 0#32
  ![v42.toNat, 0]

def k1_chk33 (v42 : BitVec 32) : Prop :=
  (∀ a, (k1_off83 v42) a + S1x64.size a ≤ S1000000x64.size a)
instance k1_chk33.dec : ∀ (v42 : BitVec 32), Decidable (k1_chk33 v42) := fun v42 => decidable_of_iff' _ (Iff.of_eq (k1_chk33.eq_1 v42))
theorem k1_off83_inb : ∀ (v42 : BitVec 32) (k1_hw33 : k1_chk33 v42), ∀ a, (k1_off83 v42) a + S1x64.size a ≤ S1000000x64.size a := fun v42 k1_hw33 => k1_hw33

def k1_off84 (k1_t7 : Fin k1_t7_loop.trips) (c0_i32_121 : BitVec 32) : Fin 2 → Nat :=
  let c0_i32_29 : BitVec 32 := 0#32
  let c1_i32_31 : BitVec 32 := 1#32
  let arg11 : BitVec 32 := Scf.iv c0_i32_29 c1_i32_31 k1_t7
  let c16_i32_120 : BitVec 32 := 16#32
  let v43 : BitVec 32 := Scalar.muli arg11 c16_i32_120
  let v44 : BitVec 32 := Scalar.addi v43 c0_i32_121
  let c0_i32_124 : BitVec 32 := 0#32
  ![v44.toNat, 0]
def k1_off85 (v54 : BitVec 32) : Fin 2 → Nat :=
  let c0_i32_129 : BitVec 32 := 0#32
  ![v54.toNat, 0]

def k1_chk34 (v54 : BitVec 32) : Prop :=
  (∀ a, (k1_off85 v54) a + S1x64.size a ≤ S1000000x64.size a)
instance k1_chk34.dec : ∀ (v54 : BitVec 32), Decidable (k1_chk34 v54) := fun v54 => decidable_of_iff' _ (Iff.of_eq (k1_chk34.eq_1 v54))
theorem k1_off85_inb : ∀ (v54 : BitVec 32) (k1_hw34 : k1_chk34 v54), ∀ a, (k1_off85 v54) a + S1x64.size a ≤ S1000000x64.size a := fun v54 k1_hw34 => k1_hw34

def k1_off86 (k1_t7 : Fin k1_t7_loop.trips) (c1_i32_127 : BitVec 32) : Fin 2 → Nat :=
  let c0_i32_29 : BitVec 32 := 0#32
  let c1_i32_31 : BitVec 32 := 1#32
  let arg11 : BitVec 32 := Scf.iv c0_i32_29 c1_i32_31 k1_t7
  let c16_i32_126 : BitVec 32 := 16#32
  let v55 : BitVec 32 := Scalar.muli arg11 c16_i32_126
  let v56 : BitVec 32 := Scalar.addi v55 c1_i32_127
  let c0_i32_130 : BitVec 32 := 0#32
  ![v56.toNat, 0]
def k1_off87 (v66 : BitVec 32) : Fin 2 → Nat :=
  let c0_i32_135 : BitVec 32 := 0#32
  ![v66.toNat, 0]

def k1_chk35 (v66 : BitVec 32) : Prop :=
  (∀ a, (k1_off87 v66) a + S1x64.size a ≤ S1000000x64.size a)
instance k1_chk35.dec : ∀ (v66 : BitVec 32), Decidable (k1_chk35 v66) := fun v66 => decidable_of_iff' _ (Iff.of_eq (k1_chk35.eq_1 v66))
theorem k1_off87_inb : ∀ (v66 : BitVec 32) (k1_hw35 : k1_chk35 v66), ∀ a, (k1_off87 v66) a + S1x64.size a ≤ S1000000x64.size a := fun v66 k1_hw35 => k1_hw35

def k1_off88 (k1_t7 : Fin k1_t7_loop.trips) (c2_i32_133 : BitVec 32) : Fin 2 → Nat :=
  let c0_i32_29 : BitVec 32 := 0#32
  let c1_i32_31 : BitVec 32 := 1#32
  let arg11 : BitVec 32 := Scf.iv c0_i32_29 c1_i32_31 k1_t7
  let c16_i32_132 : BitVec 32 := 16#32
  let v67 : BitVec 32 := Scalar.muli arg11 c16_i32_132
  let v68 : BitVec 32 := Scalar.addi v67 c2_i32_133
  let c0_i32_136 : BitVec 32 := 0#32
  ![v68.toNat, 0]
def k1_off89 (v78 : BitVec 32) : Fin 2 → Nat :=
  let c0_i32_140 : BitVec 32 := 0#32
  ![v78.toNat, 0]

def k1_chk36 (v78 : BitVec 32) : Prop :=
  (∀ a, (k1_off89 v78) a + S1x64.size a ≤ S1000000x64.size a)
instance k1_chk36.dec : ∀ (v78 : BitVec 32), Decidable (k1_chk36 v78) := fun v78 => decidable_of_iff' _ (Iff.of_eq (k1_chk36.eq_1 v78))
theorem k1_off89_inb : ∀ (v78 : BitVec 32) (k1_hw36 : k1_chk36 v78), ∀ a, (k1_off89 v78) a + S1x64.size a ≤ S1000000x64.size a := fun v78 k1_hw36 => k1_hw36

def k1_off90 (k1_t7 : Fin k1_t7_loop.trips) (c3_i32 : BitVec 32) : Fin 2 → Nat :=
  let c0_i32_29 : BitVec 32 := 0#32
  let c1_i32_31 : BitVec 32 := 1#32
  let arg11 : BitVec 32 := Scf.iv c0_i32_29 c1_i32_31 k1_t7
  let c16_i32_138 : BitVec 32 := 16#32
  let v79 : BitVec 32 := Scalar.muli arg11 c16_i32_138
  let v80 : BitVec 32 := Scalar.addi v79 c3_i32
  let c0_i32_141 : BitVec 32 := 0#32
  ![v80.toNat, 0]
def k1_off91 (v90 : BitVec 32) : Fin 2 → Nat :=
  let c0_i32_146 : BitVec 32 := 0#32
  ![v90.toNat, 0]

def k1_chk37 (v90 : BitVec 32) : Prop :=
  (∀ a, (k1_off91 v90) a + S1x64.size a ≤ S1000000x64.size a)
instance k1_chk37.dec : ∀ (v90 : BitVec 32), Decidable (k1_chk37 v90) := fun v90 => decidable_of_iff' _ (Iff.of_eq (k1_chk37.eq_1 v90))
theorem k1_off91_inb : ∀ (v90 : BitVec 32) (k1_hw37 : k1_chk37 v90), ∀ a, (k1_off91 v90) a + S1x64.size a ≤ S1000000x64.size a := fun v90 k1_hw37 => k1_hw37

def k1_off92 (k1_t7 : Fin k1_t7_loop.trips) (c4_i32_144 : BitVec 32) : Fin 2 → Nat :=
  let c0_i32_29 : BitVec 32 := 0#32
  let c1_i32_31 : BitVec 32 := 1#32
  let arg11 : BitVec 32 := Scf.iv c0_i32_29 c1_i32_31 k1_t7
  let c16_i32_143 : BitVec 32 := 16#32
  let v91 : BitVec 32 := Scalar.muli arg11 c16_i32_143
  let v92 : BitVec 32 := Scalar.addi v91 c4_i32_144
  let c0_i32_147 : BitVec 32 := 0#32
  ![v92.toNat, 0]
def k1_off93 (v102 : BitVec 32) : Fin 2 → Nat :=
  let c0_i32_151 : BitVec 32 := 0#32
  ![v102.toNat, 0]

def k1_chk38 (v102 : BitVec 32) : Prop :=
  (∀ a, (k1_off93 v102) a + S1x64.size a ≤ S1000000x64.size a)
instance k1_chk38.dec : ∀ (v102 : BitVec 32), Decidable (k1_chk38 v102) := fun v102 => decidable_of_iff' _ (Iff.of_eq (k1_chk38.eq_1 v102))
theorem k1_off93_inb : ∀ (v102 : BitVec 32) (k1_hw38 : k1_chk38 v102), ∀ a, (k1_off93 v102) a + S1x64.size a ≤ S1000000x64.size a := fun v102 k1_hw38 => k1_hw38

def k1_off94 (k1_t7 : Fin k1_t7_loop.trips) (c5_i32 : BitVec 32) : Fin 2 → Nat :=
  let c0_i32_29 : BitVec 32 := 0#32
  let c1_i32_31 : BitVec 32 := 1#32
  let arg11 : BitVec 32 := Scf.iv c0_i32_29 c1_i32_31 k1_t7
  let c16_i32_149 : BitVec 32 := 16#32
  let v103 : BitVec 32 := Scalar.muli arg11 c16_i32_149
  let v104 : BitVec 32 := Scalar.addi v103 c5_i32
  let c0_i32_152 : BitVec 32 := 0#32
  ![v104.toNat, 0]
def k1_off95 (v114 : BitVec 32) : Fin 2 → Nat :=
  let c0_i32_156 : BitVec 32 := 0#32
  ![v114.toNat, 0]

def k1_chk39 (v114 : BitVec 32) : Prop :=
  (∀ a, (k1_off95 v114) a + S1x64.size a ≤ S1000000x64.size a)
instance k1_chk39.dec : ∀ (v114 : BitVec 32), Decidable (k1_chk39 v114) := fun v114 => decidable_of_iff' _ (Iff.of_eq (k1_chk39.eq_1 v114))
theorem k1_off95_inb : ∀ (v114 : BitVec 32) (k1_hw39 : k1_chk39 v114), ∀ a, (k1_off95 v114) a + S1x64.size a ≤ S1000000x64.size a := fun v114 k1_hw39 => k1_hw39

def k1_off96 (k1_t7 : Fin k1_t7_loop.trips) (c6_i32 : BitVec 32) : Fin 2 → Nat :=
  let c0_i32_29 : BitVec 32 := 0#32
  let c1_i32_31 : BitVec 32 := 1#32
  let arg11 : BitVec 32 := Scf.iv c0_i32_29 c1_i32_31 k1_t7
  let c16_i32_154 : BitVec 32 := 16#32
  let v115 : BitVec 32 := Scalar.muli arg11 c16_i32_154
  let v116 : BitVec 32 := Scalar.addi v115 c6_i32
  let c0_i32_157 : BitVec 32 := 0#32
  ![v116.toNat, 0]
def k1_off97 (v126 : BitVec 32) : Fin 2 → Nat :=
  let c0_i32_161 : BitVec 32 := 0#32
  ![v126.toNat, 0]

def k1_chk40 (v126 : BitVec 32) : Prop :=
  (∀ a, (k1_off97 v126) a + S1x64.size a ≤ S1000000x64.size a)
instance k1_chk40.dec : ∀ (v126 : BitVec 32), Decidable (k1_chk40 v126) := fun v126 => decidable_of_iff' _ (Iff.of_eq (k1_chk40.eq_1 v126))
theorem k1_off97_inb : ∀ (v126 : BitVec 32) (k1_hw40 : k1_chk40 v126), ∀ a, (k1_off97 v126) a + S1x64.size a ≤ S1000000x64.size a := fun v126 k1_hw40 => k1_hw40

def k1_off98 (k1_t7 : Fin k1_t7_loop.trips) (c7_i32 : BitVec 32) : Fin 2 → Nat :=
  let c0_i32_29 : BitVec 32 := 0#32
  let c1_i32_31 : BitVec 32 := 1#32
  let arg11 : BitVec 32 := Scf.iv c0_i32_29 c1_i32_31 k1_t7
  let c16_i32_159 : BitVec 32 := 16#32
  let v127 : BitVec 32 := Scalar.muli arg11 c16_i32_159
  let v128 : BitVec 32 := Scalar.addi v127 c7_i32
  let c0_i32_162 : BitVec 32 := 0#32
  ![v128.toNat, 0]
def k1_off99 (v138 : BitVec 32) : Fin 2 → Nat :=
  let c0_i32_166 : BitVec 32 := 0#32
  ![v138.toNat, 0]

def k1_chk41 (v138 : BitVec 32) : Prop :=
  (∀ a, (k1_off99 v138) a + S1x64.size a ≤ S1000000x64.size a)
instance k1_chk41.dec : ∀ (v138 : BitVec 32), Decidable (k1_chk41 v138) := fun v138 => decidable_of_iff' _ (Iff.of_eq (k1_chk41.eq_1 v138))
theorem k1_off99_inb : ∀ (v138 : BitVec 32) (k1_hw41 : k1_chk41 v138), ∀ a, (k1_off99 v138) a + S1x64.size a ≤ S1000000x64.size a := fun v138 k1_hw41 => k1_hw41

def k1_off100 (k1_t7 : Fin k1_t7_loop.trips) (c8_i32 : BitVec 32) : Fin 2 → Nat :=
  let c0_i32_29 : BitVec 32 := 0#32
  let c1_i32_31 : BitVec 32 := 1#32
  let arg11 : BitVec 32 := Scf.iv c0_i32_29 c1_i32_31 k1_t7
  let c16_i32_164 : BitVec 32 := 16#32
  let v139 : BitVec 32 := Scalar.muli arg11 c16_i32_164
  let v140 : BitVec 32 := Scalar.addi v139 c8_i32
  let c0_i32_167 : BitVec 32 := 0#32
  ![v140.toNat, 0]
def k1_off101 (v150 : BitVec 32) : Fin 2 → Nat :=
  let c0_i32_171 : BitVec 32 := 0#32
  ![v150.toNat, 0]
def k1_chk42 (v150 : BitVec 32) : Prop :=
  (∀ a, (k1_off101 v150) a + S1x64.size a ≤ S1000000x64.size a)
instance k1_chk42.dec : ∀ (v150 : BitVec 32), Decidable (k1_chk42 v150) := fun v150 => decidable_of_iff' _ (Iff.of_eq (k1_chk42.eq_1 v150))
theorem k1_off101_inb : ∀ (v150 : BitVec 32) (k1_hw42 : k1_chk42 v150), ∀ a, (k1_off101 v150) a + S1x64.size a ≤ S1000000x64.size a := fun v150 k1_hw42 => k1_hw42

def k1_off102 (k1_t7 : Fin k1_t7_loop.trips) (c9_i32 : BitVec 32) : Fin 2 → Nat :=
  let c0_i32_29 : BitVec 32 := 0#32
  let c1_i32_31 : BitVec 32 := 1#32
  let arg11 : BitVec 32 := Scf.iv c0_i32_29 c1_i32_31 k1_t7
  let c16_i32_169 : BitVec 32 := 16#32
  let v151 : BitVec 32 := Scalar.muli arg11 c16_i32_169
  let v152 : BitVec 32 := Scalar.addi v151 c9_i32
  let c0_i32_172 : BitVec 32 := 0#32
  ![v152.toNat, 0]
def k1_off103 (v162 : BitVec 32) : Fin 2 → Nat :=
  let c0_i32_176 : BitVec 32 := 0#32
  ![v162.toNat, 0]

def k1_chk43 (v162 : BitVec 32) : Prop :=
  (∀ a, (k1_off103 v162) a + S1x64.size a ≤ S1000000x64.size a)
instance k1_chk43.dec : ∀ (v162 : BitVec 32), Decidable (k1_chk43 v162) := fun v162 => decidable_of_iff' _ (Iff.of_eq (k1_chk43.eq_1 v162))
theorem k1_off103_inb : ∀ (v162 : BitVec 32) (k1_hw43 : k1_chk43 v162), ∀ a, (k1_off103 v162) a + S1x64.size a ≤ S1000000x64.size a := fun v162 k1_hw43 => k1_hw43

def k1_off104 (k1_t7 : Fin k1_t7_loop.trips) (c10_i32 : BitVec 32) : Fin 2 → Nat :=
  let c0_i32_29 : BitVec 32 := 0#32
  let c1_i32_31 : BitVec 32 := 1#32
  let arg11 : BitVec 32 := Scf.iv c0_i32_29 c1_i32_31 k1_t7
  let c16_i32_174 : BitVec 32 := 16#32
  let v163 : BitVec 32 := Scalar.muli arg11 c16_i32_174
  let v164 : BitVec 32 := Scalar.addi v163 c10_i32
  let c0_i32_177 : BitVec 32 := 0#32
  ![v164.toNat, 0]
def k1_off105 (v174 : BitVec 32) : Fin 2 → Nat :=
  let c0_i32_181 : BitVec 32 := 0#32
  ![v174.toNat, 0]

def k1_chk44 (v174 : BitVec 32) : Prop :=
  (∀ a, (k1_off105 v174) a + S1x64.size a ≤ S1000000x64.size a)
instance k1_chk44.dec : ∀ (v174 : BitVec 32), Decidable (k1_chk44 v174) := fun v174 => decidable_of_iff' _ (Iff.of_eq (k1_chk44.eq_1 v174))
theorem k1_off105_inb : ∀ (v174 : BitVec 32) (k1_hw44 : k1_chk44 v174), ∀ a, (k1_off105 v174) a + S1x64.size a ≤ S1000000x64.size a := fun v174 k1_hw44 => k1_hw44

def k1_off106 (k1_t7 : Fin k1_t7_loop.trips) (c11_i32 : BitVec 32) : Fin 2 → Nat :=
  let c0_i32_29 : BitVec 32 := 0#32
  let c1_i32_31 : BitVec 32 := 1#32
  let arg11 : BitVec 32 := Scf.iv c0_i32_29 c1_i32_31 k1_t7
  let c16_i32_179 : BitVec 32 := 16#32
  let v175 : BitVec 32 := Scalar.muli arg11 c16_i32_179
  let v176 : BitVec 32 := Scalar.addi v175 c11_i32
  let c0_i32_182 : BitVec 32 := 0#32
  ![v176.toNat, 0]
def k1_off107 (v186 : BitVec 32) : Fin 2 → Nat :=
  let c0_i32_186 : BitVec 32 := 0#32
  ![v186.toNat, 0]

def k1_chk45 (v186 : BitVec 32) : Prop :=
  (∀ a, (k1_off107 v186) a + S1x64.size a ≤ S1000000x64.size a)
instance k1_chk45.dec : ∀ (v186 : BitVec 32), Decidable (k1_chk45 v186) := fun v186 => decidable_of_iff' _ (Iff.of_eq (k1_chk45.eq_1 v186))
theorem k1_off107_inb : ∀ (v186 : BitVec 32) (k1_hw45 : k1_chk45 v186), ∀ a, (k1_off107 v186) a + S1x64.size a ≤ S1000000x64.size a := fun v186 k1_hw45 => k1_hw45

def k1_off108 (k1_t7 : Fin k1_t7_loop.trips) (c12_i32 : BitVec 32) : Fin 2 → Nat :=
  let c0_i32_29 : BitVec 32 := 0#32
  let c1_i32_31 : BitVec 32 := 1#32
  let arg11 : BitVec 32 := Scf.iv c0_i32_29 c1_i32_31 k1_t7
  let c16_i32_184 : BitVec 32 := 16#32
  let v187 : BitVec 32 := Scalar.muli arg11 c16_i32_184
  let v188 : BitVec 32 := Scalar.addi v187 c12_i32
  let c0_i32_187 : BitVec 32 := 0#32
  ![v188.toNat, 0]
def k1_off109 (v198 : BitVec 32) : Fin 2 → Nat :=
  let c0_i32_191 : BitVec 32 := 0#32
  ![v198.toNat, 0]

def k1_chk46 (v198 : BitVec 32) : Prop :=
  (∀ a, (k1_off109 v198) a + S1x64.size a ≤ S1000000x64.size a)
instance k1_chk46.dec : ∀ (v198 : BitVec 32), Decidable (k1_chk46 v198) := fun v198 => decidable_of_iff' _ (Iff.of_eq (k1_chk46.eq_1 v198))
theorem k1_off109_inb : ∀ (v198 : BitVec 32) (k1_hw46 : k1_chk46 v198), ∀ a, (k1_off109 v198) a + S1x64.size a ≤ S1000000x64.size a := fun v198 k1_hw46 => k1_hw46

def k1_off110 (k1_t7 : Fin k1_t7_loop.trips) (c13_i32 : BitVec 32) : Fin 2 → Nat :=
  let c0_i32_29 : BitVec 32 := 0#32
  let c1_i32_31 : BitVec 32 := 1#32
  let arg11 : BitVec 32 := Scf.iv c0_i32_29 c1_i32_31 k1_t7
  let c16_i32_189 : BitVec 32 := 16#32
  let v199 : BitVec 32 := Scalar.muli arg11 c16_i32_189
  let v200 : BitVec 32 := Scalar.addi v199 c13_i32
  let c0_i32_192 : BitVec 32 := 0#32
  ![v200.toNat, 0]
def k1_off111 (v210 : BitVec 32) : Fin 2 → Nat :=
  let c0_i32_196 : BitVec 32 := 0#32
  ![v210.toNat, 0]

def k1_chk47 (v210 : BitVec 32) : Prop :=
  (∀ a, (k1_off111 v210) a + S1x64.size a ≤ S1000000x64.size a)
instance k1_chk47.dec : ∀ (v210 : BitVec 32), Decidable (k1_chk47 v210) := fun v210 => decidable_of_iff' _ (Iff.of_eq (k1_chk47.eq_1 v210))
theorem k1_off111_inb : ∀ (v210 : BitVec 32) (k1_hw47 : k1_chk47 v210), ∀ a, (k1_off111 v210) a + S1x64.size a ≤ S1000000x64.size a := fun v210 k1_hw47 => k1_hw47

def k1_off112 (k1_t7 : Fin k1_t7_loop.trips) (c14_i32 : BitVec 32) : Fin 2 → Nat :=
  let c0_i32_29 : BitVec 32 := 0#32
  let c1_i32_31 : BitVec 32 := 1#32
  let arg11 : BitVec 32 := Scf.iv c0_i32_29 c1_i32_31 k1_t7
  let c16_i32_194 : BitVec 32 := 16#32
  let v211 : BitVec 32 := Scalar.muli arg11 c16_i32_194
  let v212 : BitVec 32 := Scalar.addi v211 c14_i32
  let c0_i32_197 : BitVec 32 := 0#32
  ![v212.toNat, 0]
def k1_off113 (v222 : BitVec 32) : Fin 2 → Nat :=
  let c0_i32_201 : BitVec 32 := 0#32
  ![v222.toNat, 0]

def k1_chk48 (v222 : BitVec 32) : Prop :=
  (∀ a, (k1_off113 v222) a + S1x64.size a ≤ S1000000x64.size a)
instance k1_chk48.dec : ∀ (v222 : BitVec 32), Decidable (k1_chk48 v222) := fun v222 => decidable_of_iff' _ (Iff.of_eq (k1_chk48.eq_1 v222))
theorem k1_off113_inb : ∀ (v222 : BitVec 32) (k1_hw48 : k1_chk48 v222), ∀ a, (k1_off113 v222) a + S1x64.size a ≤ S1000000x64.size a := fun v222 k1_hw48 => k1_hw48

def k1_off114 (k1_t7 : Fin k1_t7_loop.trips) : Fin 2 → Nat :=
  let c0_i32_29 : BitVec 32 := 0#32
  let c1_i32_31 : BitVec 32 := 1#32
  let arg11 : BitVec 32 := Scf.iv c0_i32_29 c1_i32_31 k1_t7
  let c16_i32_199 : BitVec 32 := 16#32
  let v223 : BitVec 32 := Scalar.muli arg11 c16_i32_199
  let c15_i32 : BitVec 32 := 15#32
  let v224 : BitVec 32 := Scalar.addi v223 c15_i32
  let c0_i32_202 : BitVec 32 := 0#32
  ![v224.toNat, 0]
@[reducible] def k1_t8_loop : Scf.Loop 32 :=
  let c0_i32_34 : BitVec 32 := 0#32
  let c64_i32_35 : BitVec 32 := 64#32
  let v13 : BitVec 32 := Scalar.addi c0_i32_34 c64_i32_35
  let c1_i32_36 : BitVec 32 := 1#32
  ⟨c0_i32_34, v13, c1_i32_36⟩
@[reducible] def k1_t9_loop : Scf.Loop 32 :=
  let c0_i32_39 : BitVec 32 := 0#32
  let c64_i32_40 : BitVec 32 := 64#32
  let v14 : BitVec 32 := Scalar.addi c0_i32_39 c64_i32_40
  let c1_i32_41 : BitVec 32 := 1#32
  ⟨c0_i32_39, v14, c1_i32_41⟩
def k1_off115 (k1_t9 : Fin k1_t9_loop.trips) : Fin 2 → Nat :=
  let c0_i32_39 : BitVec 32 := 0#32
  let c1_i32_41 : BitVec 32 := 1#32
  let arg11 : BitVec 32 := Scf.iv c0_i32_39 c1_i32_41 k1_t9
  let v36 : Index := Scalar.indexCast arg11
  let c0 : Index := 0#32
  ![v36.toNat, 0]
def k1_off116 (k1_t9 : Fin k1_t9_loop.trips) : Fin 2 → Nat :=
  let c0_i32_39 : BitVec 32 := 0#32
  let c1_i32_41 : BitVec 32 := 1#32
  let arg11 : BitVec 32 := Scf.iv c0_i32_39 c1_i32_41 k1_t9
  let v43 : Index := Scalar.indexCast arg11
  let c16 : Index := 16#32
  ![v43.toNat, 16]
def k1_off117 (k1_t9 : Fin k1_t9_loop.trips) : Fin 2 → Nat :=
  let c0_i32_39 : BitVec 32 := 0#32
  let c1_i32_41 : BitVec 32 := 1#32
  let arg11 : BitVec 32 := Scf.iv c0_i32_39 c1_i32_41 k1_t9
  let v51 : Index := Scalar.indexCast arg11
  let c32 : Index := 32#32
  ![v51.toNat, 32]
def k1_off118 (k1_t9 : Fin k1_t9_loop.trips) : Fin 2 → Nat :=
  let c0_i32_39 : BitVec 32 := 0#32
  let c1_i32_41 : BitVec 32 := 1#32
  let arg11 : BitVec 32 := Scf.iv c0_i32_39 c1_i32_41 k1_t9
  let v59 : Index := Scalar.indexCast arg11
  let c48 : Index := 48#32
  ![v59.toNat, 48]
def k1_off119 (k1_t9 : Fin k1_t9_loop.trips) : Fin 1 → Nat :=
  let c128_i32_122 : BitVec 32 := 128#32
  let c0_i32_39 : BitVec 32 := 0#32
  let c1_i32_41 : BitVec 32 := 1#32
  let arg11 : BitVec 32 := Scf.iv c0_i32_39 c1_i32_41 k1_t9
  let v67 : BitVec 32 := Scalar.addi c128_i32_122 arg11
  let c16_i32_123 : BitVec 32 := 16#32
  let v68 : BitVec 32 := Scalar.muli v67 c16_i32_123
  let v69 : Index := Scalar.indexCast v68
  ![v69.toNat]
@[reducible] def k1_t10_loop : Scf.Loop 32 :=
  let c0_i32_44 : BitVec 32 := 0#32
  let c4_i32_45 : BitVec 32 := 4#32
  let v16 : BitVec 32 := Scalar.addi c0_i32_44 c4_i32_45
  let c1_i32_46 : BitVec 32 := 1#32
  ⟨c0_i32_44, v16, c1_i32_46⟩
def k1_off120 (k1_t10 : Fin k1_t10_loop.trips) : Fin 1 → Nat :=
  let c192_i32_119 : BitVec 32 := 192#32
  let c0_i32_44 : BitVec 32 := 0#32
  let c1_i32_46 : BitVec 32 := 1#32
  let arg11 : BitVec 32 := Scf.iv c0_i32_44 c1_i32_46 k1_t10
  let c16_i32_118 : BitVec 32 := 16#32
  let v36 : BitVec 32 := Scalar.muli arg11 c16_i32_118
  let v37 : BitVec 32 := Scalar.addi c192_i32_119 v36
  let v38 : Index := Scalar.indexCast v37
  ![v38.toNat]
def k1_off121 (k1_t10 : Fin k1_t10_loop.trips) : Fin 2 → Nat :=
  let c0_i32_44 : BitVec 32 := 0#32
  let c1_i32_46 : BitVec 32 := 1#32
  let arg11 : BitVec 32 := Scf.iv c0_i32_44 c1_i32_46 k1_t10
  let c16_i32_120 : BitVec 32 := 16#32
  let v43 : BitVec 32 := Scalar.muli arg11 c16_i32_120
  let c0_i32_121 : BitVec 32 := 0#32
  let v44 : BitVec 32 := Scalar.addi v43 c0_i32_121
  let c0_i32_122 : BitVec 32 := 0#32
  ![v44.toNat, 0]
def k1_off122 (v42 : BitVec 32) : Fin 2 → Nat :=
  let c0_i32_123 : BitVec 32 := 0#32
  ![v42.toNat, 0]

def k1_chk49 (v42 : BitVec 32) : Prop :=
  (∀ a, (k1_off122 v42) a + S1x64.size a ≤ S1000000x64.size a)
instance k1_chk49.dec : ∀ (v42 : BitVec 32), Decidable (k1_chk49 v42) := fun v42 => decidable_of_iff' _ (Iff.of_eq (k1_chk49.eq_1 v42))
theorem k1_off122_inb : ∀ (v42 : BitVec 32) (k1_hw49 : k1_chk49 v42), ∀ a, (k1_off122 v42) a + S1x64.size a ≤ S1000000x64.size a := fun v42 k1_hw49 => k1_hw49

def k1_off123 (k1_t10 : Fin k1_t10_loop.trips) (c0_i32_121 : BitVec 32) : Fin 2 → Nat :=
  let c0_i32_44 : BitVec 32 := 0#32
  let c1_i32_46 : BitVec 32 := 1#32
  let arg11 : BitVec 32 := Scf.iv c0_i32_44 c1_i32_46 k1_t10
  let c16_i32_120 : BitVec 32 := 16#32
  let v43 : BitVec 32 := Scalar.muli arg11 c16_i32_120
  let v44 : BitVec 32 := Scalar.addi v43 c0_i32_121
  let c0_i32_124 : BitVec 32 := 0#32
  ![v44.toNat, 0]
def k1_off124 (v54 : BitVec 32) : Fin 2 → Nat :=
  let c0_i32_129 : BitVec 32 := 0#32
  ![v54.toNat, 0]

def k1_chk50 (v54 : BitVec 32) : Prop :=
  (∀ a, (k1_off124 v54) a + S1x64.size a ≤ S1000000x64.size a)
instance k1_chk50.dec : ∀ (v54 : BitVec 32), Decidable (k1_chk50 v54) := fun v54 => decidable_of_iff' _ (Iff.of_eq (k1_chk50.eq_1 v54))
theorem k1_off124_inb : ∀ (v54 : BitVec 32) (k1_hw50 : k1_chk50 v54), ∀ a, (k1_off124 v54) a + S1x64.size a ≤ S1000000x64.size a := fun v54 k1_hw50 => k1_hw50

def k1_off125 (k1_t10 : Fin k1_t10_loop.trips) (c1_i32_127 : BitVec 32) : Fin 2 → Nat :=
  let c0_i32_44 : BitVec 32 := 0#32
  let c1_i32_46 : BitVec 32 := 1#32
  let arg11 : BitVec 32 := Scf.iv c0_i32_44 c1_i32_46 k1_t10
  let c16_i32_126 : BitVec 32 := 16#32
  let v55 : BitVec 32 := Scalar.muli arg11 c16_i32_126
  let v56 : BitVec 32 := Scalar.addi v55 c1_i32_127
  let c0_i32_130 : BitVec 32 := 0#32
  ![v56.toNat, 0]
def k1_off126 (v66 : BitVec 32) : Fin 2 → Nat :=
  let c0_i32_135 : BitVec 32 := 0#32
  ![v66.toNat, 0]

def k1_chk51 (v66 : BitVec 32) : Prop :=
  (∀ a, (k1_off126 v66) a + S1x64.size a ≤ S1000000x64.size a)
instance k1_chk51.dec : ∀ (v66 : BitVec 32), Decidable (k1_chk51 v66) := fun v66 => decidable_of_iff' _ (Iff.of_eq (k1_chk51.eq_1 v66))
theorem k1_off126_inb : ∀ (v66 : BitVec 32) (k1_hw51 : k1_chk51 v66), ∀ a, (k1_off126 v66) a + S1x64.size a ≤ S1000000x64.size a := fun v66 k1_hw51 => k1_hw51

def k1_off127 (k1_t10 : Fin k1_t10_loop.trips) (c2_i32_133 : BitVec 32) : Fin 2 → Nat :=
  let c0_i32_44 : BitVec 32 := 0#32
  let c1_i32_46 : BitVec 32 := 1#32
  let arg11 : BitVec 32 := Scf.iv c0_i32_44 c1_i32_46 k1_t10
  let c16_i32_132 : BitVec 32 := 16#32
  let v67 : BitVec 32 := Scalar.muli arg11 c16_i32_132
  let v68 : BitVec 32 := Scalar.addi v67 c2_i32_133
  let c0_i32_136 : BitVec 32 := 0#32
  ![v68.toNat, 0]
def k1_off128 (v78 : BitVec 32) : Fin 2 → Nat :=
  let c0_i32_140 : BitVec 32 := 0#32
  ![v78.toNat, 0]

def k1_chk52 (v78 : BitVec 32) : Prop :=
  (∀ a, (k1_off128 v78) a + S1x64.size a ≤ S1000000x64.size a)
instance k1_chk52.dec : ∀ (v78 : BitVec 32), Decidable (k1_chk52 v78) := fun v78 => decidable_of_iff' _ (Iff.of_eq (k1_chk52.eq_1 v78))
theorem k1_off128_inb : ∀ (v78 : BitVec 32) (k1_hw52 : k1_chk52 v78), ∀ a, (k1_off128 v78) a + S1x64.size a ≤ S1000000x64.size a := fun v78 k1_hw52 => k1_hw52

def k1_off129 (k1_t10 : Fin k1_t10_loop.trips) (c3_i32 : BitVec 32) : Fin 2 → Nat :=
  let c0_i32_44 : BitVec 32 := 0#32
  let c1_i32_46 : BitVec 32 := 1#32
  let arg11 : BitVec 32 := Scf.iv c0_i32_44 c1_i32_46 k1_t10
  let c16_i32_138 : BitVec 32 := 16#32
  let v79 : BitVec 32 := Scalar.muli arg11 c16_i32_138
  let v80 : BitVec 32 := Scalar.addi v79 c3_i32
  let c0_i32_141 : BitVec 32 := 0#32
  ![v80.toNat, 0]
def k1_off130 (v90 : BitVec 32) : Fin 2 → Nat :=
  let c0_i32_146 : BitVec 32 := 0#32
  ![v90.toNat, 0]

def k1_chk53 (v90 : BitVec 32) : Prop :=
  (∀ a, (k1_off130 v90) a + S1x64.size a ≤ S1000000x64.size a)
instance k1_chk53.dec : ∀ (v90 : BitVec 32), Decidable (k1_chk53 v90) := fun v90 => decidable_of_iff' _ (Iff.of_eq (k1_chk53.eq_1 v90))
theorem k1_off130_inb : ∀ (v90 : BitVec 32) (k1_hw53 : k1_chk53 v90), ∀ a, (k1_off130 v90) a + S1x64.size a ≤ S1000000x64.size a := fun v90 k1_hw53 => k1_hw53

def k1_off131 (k1_t10 : Fin k1_t10_loop.trips) (c4_i32_144 : BitVec 32) : Fin 2 → Nat :=
  let c0_i32_44 : BitVec 32 := 0#32
  let c1_i32_46 : BitVec 32 := 1#32
  let arg11 : BitVec 32 := Scf.iv c0_i32_44 c1_i32_46 k1_t10
  let c16_i32_143 : BitVec 32 := 16#32
  let v91 : BitVec 32 := Scalar.muli arg11 c16_i32_143
  let v92 : BitVec 32 := Scalar.addi v91 c4_i32_144
  let c0_i32_147 : BitVec 32 := 0#32
  ![v92.toNat, 0]
def k1_off132 (v102 : BitVec 32) : Fin 2 → Nat :=
  let c0_i32_151 : BitVec 32 := 0#32
  ![v102.toNat, 0]

def k1_chk54 (v102 : BitVec 32) : Prop :=
  (∀ a, (k1_off132 v102) a + S1x64.size a ≤ S1000000x64.size a)
instance k1_chk54.dec : ∀ (v102 : BitVec 32), Decidable (k1_chk54 v102) := fun v102 => decidable_of_iff' _ (Iff.of_eq (k1_chk54.eq_1 v102))
theorem k1_off132_inb : ∀ (v102 : BitVec 32) (k1_hw54 : k1_chk54 v102), ∀ a, (k1_off132 v102) a + S1x64.size a ≤ S1000000x64.size a := fun v102 k1_hw54 => k1_hw54

def k1_off133 (k1_t10 : Fin k1_t10_loop.trips) (c5_i32 : BitVec 32) : Fin 2 → Nat :=
  let c0_i32_44 : BitVec 32 := 0#32
  let c1_i32_46 : BitVec 32 := 1#32
  let arg11 : BitVec 32 := Scf.iv c0_i32_44 c1_i32_46 k1_t10
  let c16_i32_149 : BitVec 32 := 16#32
  let v103 : BitVec 32 := Scalar.muli arg11 c16_i32_149
  let v104 : BitVec 32 := Scalar.addi v103 c5_i32
  let c0_i32_152 : BitVec 32 := 0#32
  ![v104.toNat, 0]
def k1_off134 (v114 : BitVec 32) : Fin 2 → Nat :=
  let c0_i32_156 : BitVec 32 := 0#32
  ![v114.toNat, 0]

def k1_chk55 (v114 : BitVec 32) : Prop :=
  (∀ a, (k1_off134 v114) a + S1x64.size a ≤ S1000000x64.size a)
instance k1_chk55.dec : ∀ (v114 : BitVec 32), Decidable (k1_chk55 v114) := fun v114 => decidable_of_iff' _ (Iff.of_eq (k1_chk55.eq_1 v114))
theorem k1_off134_inb : ∀ (v114 : BitVec 32) (k1_hw55 : k1_chk55 v114), ∀ a, (k1_off134 v114) a + S1x64.size a ≤ S1000000x64.size a := fun v114 k1_hw55 => k1_hw55

def k1_off135 (k1_t10 : Fin k1_t10_loop.trips) (c6_i32 : BitVec 32) : Fin 2 → Nat :=
  let c0_i32_44 : BitVec 32 := 0#32
  let c1_i32_46 : BitVec 32 := 1#32
  let arg11 : BitVec 32 := Scf.iv c0_i32_44 c1_i32_46 k1_t10
  let c16_i32_154 : BitVec 32 := 16#32
  let v115 : BitVec 32 := Scalar.muli arg11 c16_i32_154
  let v116 : BitVec 32 := Scalar.addi v115 c6_i32
  let c0_i32_157 : BitVec 32 := 0#32
  ![v116.toNat, 0]
def k1_off136 (v126 : BitVec 32) : Fin 2 → Nat :=
  let c0_i32_161 : BitVec 32 := 0#32
  ![v126.toNat, 0]

def k1_chk56 (v126 : BitVec 32) : Prop :=
  (∀ a, (k1_off136 v126) a + S1x64.size a ≤ S1000000x64.size a)
instance k1_chk56.dec : ∀ (v126 : BitVec 32), Decidable (k1_chk56 v126) := fun v126 => decidable_of_iff' _ (Iff.of_eq (k1_chk56.eq_1 v126))
theorem k1_off136_inb : ∀ (v126 : BitVec 32) (k1_hw56 : k1_chk56 v126), ∀ a, (k1_off136 v126) a + S1x64.size a ≤ S1000000x64.size a := fun v126 k1_hw56 => k1_hw56

def k1_off137 (k1_t10 : Fin k1_t10_loop.trips) (c7_i32 : BitVec 32) : Fin 2 → Nat :=
  let c0_i32_44 : BitVec 32 := 0#32
  let c1_i32_46 : BitVec 32 := 1#32
  let arg11 : BitVec 32 := Scf.iv c0_i32_44 c1_i32_46 k1_t10
  let c16_i32_159 : BitVec 32 := 16#32
  let v127 : BitVec 32 := Scalar.muli arg11 c16_i32_159
  let v128 : BitVec 32 := Scalar.addi v127 c7_i32
  let c0_i32_162 : BitVec 32 := 0#32
  ![v128.toNat, 0]
def k1_off138 (v138 : BitVec 32) : Fin 2 → Nat :=
  let c0_i32_166 : BitVec 32 := 0#32
  ![v138.toNat, 0]

def k1_chk57 (v138 : BitVec 32) : Prop :=
  (∀ a, (k1_off138 v138) a + S1x64.size a ≤ S1000000x64.size a)
instance k1_chk57.dec : ∀ (v138 : BitVec 32), Decidable (k1_chk57 v138) := fun v138 => decidable_of_iff' _ (Iff.of_eq (k1_chk57.eq_1 v138))
theorem k1_off138_inb : ∀ (v138 : BitVec 32) (k1_hw57 : k1_chk57 v138), ∀ a, (k1_off138 v138) a + S1x64.size a ≤ S1000000x64.size a := fun v138 k1_hw57 => k1_hw57

def k1_off139 (k1_t10 : Fin k1_t10_loop.trips) (c8_i32 : BitVec 32) : Fin 2 → Nat :=
  let c0_i32_44 : BitVec 32 := 0#32
  let c1_i32_46 : BitVec 32 := 1#32
  let arg11 : BitVec 32 := Scf.iv c0_i32_44 c1_i32_46 k1_t10
  let c16_i32_164 : BitVec 32 := 16#32
  let v139 : BitVec 32 := Scalar.muli arg11 c16_i32_164
  let v140 : BitVec 32 := Scalar.addi v139 c8_i32
  let c0_i32_167 : BitVec 32 := 0#32
  ![v140.toNat, 0]
def k1_off140 (v150 : BitVec 32) : Fin 2 → Nat :=
  let c0_i32_171 : BitVec 32 := 0#32
  ![v150.toNat, 0]

def k1_chk58 (v150 : BitVec 32) : Prop :=
  (∀ a, (k1_off140 v150) a + S1x64.size a ≤ S1000000x64.size a)
instance k1_chk58.dec : ∀ (v150 : BitVec 32), Decidable (k1_chk58 v150) := fun v150 => decidable_of_iff' _ (Iff.of_eq (k1_chk58.eq_1 v150))
theorem k1_off140_inb : ∀ (v150 : BitVec 32) (k1_hw58 : k1_chk58 v150), ∀ a, (k1_off140 v150) a + S1x64.size a ≤ S1000000x64.size a := fun v150 k1_hw58 => k1_hw58

def k1_off141 (k1_t10 : Fin k1_t10_loop.trips) (c9_i32 : BitVec 32) : Fin 2 → Nat :=
  let c0_i32_44 : BitVec 32 := 0#32
  let c1_i32_46 : BitVec 32 := 1#32
  let arg11 : BitVec 32 := Scf.iv c0_i32_44 c1_i32_46 k1_t10
  let c16_i32_169 : BitVec 32 := 16#32
  let v151 : BitVec 32 := Scalar.muli arg11 c16_i32_169
  let v152 : BitVec 32 := Scalar.addi v151 c9_i32
  let c0_i32_172 : BitVec 32 := 0#32
  ![v152.toNat, 0]
def k1_off142 (v162 : BitVec 32) : Fin 2 → Nat :=
  let c0_i32_176 : BitVec 32 := 0#32
  ![v162.toNat, 0]

def k1_chk59 (v162 : BitVec 32) : Prop :=
  (∀ a, (k1_off142 v162) a + S1x64.size a ≤ S1000000x64.size a)
instance k1_chk59.dec : ∀ (v162 : BitVec 32), Decidable (k1_chk59 v162) := fun v162 => decidable_of_iff' _ (Iff.of_eq (k1_chk59.eq_1 v162))
theorem k1_off142_inb : ∀ (v162 : BitVec 32) (k1_hw59 : k1_chk59 v162), ∀ a, (k1_off142 v162) a + S1x64.size a ≤ S1000000x64.size a := fun v162 k1_hw59 => k1_hw59

def k1_off143 (k1_t10 : Fin k1_t10_loop.trips) (c10_i32 : BitVec 32) : Fin 2 → Nat :=
  let c0_i32_44 : BitVec 32 := 0#32
  let c1_i32_46 : BitVec 32 := 1#32
  let arg11 : BitVec 32 := Scf.iv c0_i32_44 c1_i32_46 k1_t10
  let c16_i32_174 : BitVec 32 := 16#32
  let v163 : BitVec 32 := Scalar.muli arg11 c16_i32_174
  let v164 : BitVec 32 := Scalar.addi v163 c10_i32
  let c0_i32_177 : BitVec 32 := 0#32
  ![v164.toNat, 0]
def k1_off144 (v174 : BitVec 32) : Fin 2 → Nat :=
  let c0_i32_181 : BitVec 32 := 0#32
  ![v174.toNat, 0]

def k1_chk60 (v174 : BitVec 32) : Prop :=
  (∀ a, (k1_off144 v174) a + S1x64.size a ≤ S1000000x64.size a)
instance k1_chk60.dec : ∀ (v174 : BitVec 32), Decidable (k1_chk60 v174) := fun v174 => decidable_of_iff' _ (Iff.of_eq (k1_chk60.eq_1 v174))
theorem k1_off144_inb : ∀ (v174 : BitVec 32) (k1_hw60 : k1_chk60 v174), ∀ a, (k1_off144 v174) a + S1x64.size a ≤ S1000000x64.size a := fun v174 k1_hw60 => k1_hw60

def k1_off145 (k1_t10 : Fin k1_t10_loop.trips) (c11_i32 : BitVec 32) : Fin 2 → Nat :=
  let c0_i32_44 : BitVec 32 := 0#32
  let c1_i32_46 : BitVec 32 := 1#32
  let arg11 : BitVec 32 := Scf.iv c0_i32_44 c1_i32_46 k1_t10
  let c16_i32_179 : BitVec 32 := 16#32
  let v175 : BitVec 32 := Scalar.muli arg11 c16_i32_179
  let v176 : BitVec 32 := Scalar.addi v175 c11_i32
  let c0_i32_182 : BitVec 32 := 0#32
  ![v176.toNat, 0]
def k1_off146 (v186 : BitVec 32) : Fin 2 → Nat :=
  let c0_i32_186 : BitVec 32 := 0#32
  ![v186.toNat, 0]

def k1_chk61 (v186 : BitVec 32) : Prop :=
  (∀ a, (k1_off146 v186) a + S1x64.size a ≤ S1000000x64.size a)
instance k1_chk61.dec : ∀ (v186 : BitVec 32), Decidable (k1_chk61 v186) := fun v186 => decidable_of_iff' _ (Iff.of_eq (k1_chk61.eq_1 v186))
theorem k1_off146_inb : ∀ (v186 : BitVec 32) (k1_hw61 : k1_chk61 v186), ∀ a, (k1_off146 v186) a + S1x64.size a ≤ S1000000x64.size a := fun v186 k1_hw61 => k1_hw61

def k1_off147 (k1_t10 : Fin k1_t10_loop.trips) (c12_i32 : BitVec 32) : Fin 2 → Nat :=
  let c0_i32_44 : BitVec 32 := 0#32
  let c1_i32_46 : BitVec 32 := 1#32
  let arg11 : BitVec 32 := Scf.iv c0_i32_44 c1_i32_46 k1_t10
  let c16_i32_184 : BitVec 32 := 16#32
  let v187 : BitVec 32 := Scalar.muli arg11 c16_i32_184
  let v188 : BitVec 32 := Scalar.addi v187 c12_i32
  let c0_i32_187 : BitVec 32 := 0#32
  ![v188.toNat, 0]
def k1_off148 (v198 : BitVec 32) : Fin 2 → Nat :=
  let c0_i32_191 : BitVec 32 := 0#32
  ![v198.toNat, 0]

def k1_chk62 (v198 : BitVec 32) : Prop :=
  (∀ a, (k1_off148 v198) a + S1x64.size a ≤ S1000000x64.size a)
instance k1_chk62.dec : ∀ (v198 : BitVec 32), Decidable (k1_chk62 v198) := fun v198 => decidable_of_iff' _ (Iff.of_eq (k1_chk62.eq_1 v198))
theorem k1_off148_inb : ∀ (v198 : BitVec 32) (k1_hw62 : k1_chk62 v198), ∀ a, (k1_off148 v198) a + S1x64.size a ≤ S1000000x64.size a := fun v198 k1_hw62 => k1_hw62

def k1_off149 (k1_t10 : Fin k1_t10_loop.trips) (c13_i32 : BitVec 32) : Fin 2 → Nat :=
  let c0_i32_44 : BitVec 32 := 0#32
  let c1_i32_46 : BitVec 32 := 1#32
  let arg11 : BitVec 32 := Scf.iv c0_i32_44 c1_i32_46 k1_t10
  let c16_i32_189 : BitVec 32 := 16#32
  let v199 : BitVec 32 := Scalar.muli arg11 c16_i32_189
  let v200 : BitVec 32 := Scalar.addi v199 c13_i32
  let c0_i32_192 : BitVec 32 := 0#32
  ![v200.toNat, 0]
def k1_off150 (v210 : BitVec 32) : Fin 2 → Nat :=
  let c0_i32_196 : BitVec 32 := 0#32
  ![v210.toNat, 0]

def k1_chk63 (v210 : BitVec 32) : Prop :=
  (∀ a, (k1_off150 v210) a + S1x64.size a ≤ S1000000x64.size a)
instance k1_chk63.dec : ∀ (v210 : BitVec 32), Decidable (k1_chk63 v210) := fun v210 => decidable_of_iff' _ (Iff.of_eq (k1_chk63.eq_1 v210))
theorem k1_off150_inb : ∀ (v210 : BitVec 32) (k1_hw63 : k1_chk63 v210), ∀ a, (k1_off150 v210) a + S1x64.size a ≤ S1000000x64.size a := fun v210 k1_hw63 => k1_hw63

def k1_off151 (k1_t10 : Fin k1_t10_loop.trips) (c14_i32 : BitVec 32) : Fin 2 → Nat :=
  let c0_i32_44 : BitVec 32 := 0#32
  let c1_i32_46 : BitVec 32 := 1#32
  let arg11 : BitVec 32 := Scf.iv c0_i32_44 c1_i32_46 k1_t10
  let c16_i32_194 : BitVec 32 := 16#32
  let v211 : BitVec 32 := Scalar.muli arg11 c16_i32_194
  let v212 : BitVec 32 := Scalar.addi v211 c14_i32
  let c0_i32_197 : BitVec 32 := 0#32
  ![v212.toNat, 0]
def k1_off152 (v222 : BitVec 32) : Fin 2 → Nat :=
  let c0_i32_201 : BitVec 32 := 0#32
  ![v222.toNat, 0]

def k1_chk64 (v222 : BitVec 32) : Prop :=
  (∀ a, (k1_off152 v222) a + S1x64.size a ≤ S1000000x64.size a)
instance k1_chk64.dec : ∀ (v222 : BitVec 32), Decidable (k1_chk64 v222) := fun v222 => decidable_of_iff' _ (Iff.of_eq (k1_chk64.eq_1 v222))
theorem k1_off152_inb : ∀ (v222 : BitVec 32) (k1_hw64 : k1_chk64 v222), ∀ a, (k1_off152 v222) a + S1x64.size a ≤ S1000000x64.size a := fun v222 k1_hw64 => k1_hw64

def k1_off153 (k1_t10 : Fin k1_t10_loop.trips) : Fin 2 → Nat :=
  let c0_i32_44 : BitVec 32 := 0#32
  let c1_i32_46 : BitVec 32 := 1#32
  let arg11 : BitVec 32 := Scf.iv c0_i32_44 c1_i32_46 k1_t10
  let c16_i32_199 : BitVec 32 := 16#32
  let v223 : BitVec 32 := Scalar.muli arg11 c16_i32_199
  let c15_i32 : BitVec 32 := 15#32
  let v224 : BitVec 32 := Scalar.addi v223 c15_i32
  let c0_i32_202 : BitVec 32 := 0#32
  ![v224.toNat, 0]
@[reducible] def k1_t11_loop : Scf.Loop 32 :=
  let c0_i32_49 : BitVec 32 := 0#32
  let c64_i32_50 : BitVec 32 := 64#32
  let v17 : BitVec 32 := Scalar.addi c0_i32_49 c64_i32_50
  let c1_i32_51 : BitVec 32 := 1#32
  ⟨c0_i32_49, v17, c1_i32_51⟩
@[reducible] def k1_t12_loop : Scf.Loop 32 :=
  let c0_i32_54 : BitVec 32 := 0#32
  let c64_i32_55 : BitVec 32 := 64#32
  let v18 : BitVec 32 := Scalar.addi c0_i32_54 c64_i32_55
  let c1_i32_56 : BitVec 32 := 1#32
  ⟨c0_i32_54, v18, c1_i32_56⟩
def k1_off154 (k1_t12 : Fin k1_t12_loop.trips) : Fin 2 → Nat :=
  let c0_i32_54 : BitVec 32 := 0#32
  let c1_i32_56 : BitVec 32 := 1#32
  let arg11 : BitVec 32 := Scf.iv c0_i32_54 c1_i32_56 k1_t12
  let v36 : Index := Scalar.indexCast arg11
  let c0 : Index := 0#32
  ![v36.toNat, 0]
def k1_off155 (k1_t12 : Fin k1_t12_loop.trips) : Fin 2 → Nat :=
  let c0_i32_54 : BitVec 32 := 0#32
  let c1_i32_56 : BitVec 32 := 1#32
  let arg11 : BitVec 32 := Scf.iv c0_i32_54 c1_i32_56 k1_t12
  let v43 : Index := Scalar.indexCast arg11
  let c16 : Index := 16#32
  ![v43.toNat, 16]
def k1_off156 (k1_t12 : Fin k1_t12_loop.trips) : Fin 2 → Nat :=
  let c0_i32_54 : BitVec 32 := 0#32
  let c1_i32_56 : BitVec 32 := 1#32
  let arg11 : BitVec 32 := Scf.iv c0_i32_54 c1_i32_56 k1_t12
  let v51 : Index := Scalar.indexCast arg11
  let c32 : Index := 32#32
  ![v51.toNat, 32]
def k1_off157 (k1_t12 : Fin k1_t12_loop.trips) : Fin 2 → Nat :=
  let c0_i32_54 : BitVec 32 := 0#32
  let c1_i32_56 : BitVec 32 := 1#32
  let arg11 : BitVec 32 := Scf.iv c0_i32_54 c1_i32_56 k1_t12
  let v59 : Index := Scalar.indexCast arg11
  let c48 : Index := 48#32
  ![v59.toNat, 48]
def k1_off158 (k1_t12 : Fin k1_t12_loop.trips) : Fin 1 → Nat :=
  let c192_i32_122 : BitVec 32 := 192#32
  let c0_i32_54 : BitVec 32 := 0#32
  let c1_i32_56 : BitVec 32 := 1#32
  let arg11 : BitVec 32 := Scf.iv c0_i32_54 c1_i32_56 k1_t12
  let v67 : BitVec 32 := Scalar.addi c192_i32_122 arg11
  let c16_i32_123 : BitVec 32 := 16#32
  let v68 : BitVec 32 := Scalar.muli v67 c16_i32_123
  let v69 : Index := Scalar.indexCast v68
  ![v69.toNat]
@[reducible] def k1_t13_loop : Scf.Loop 32 :=
  let c0_i32_59 : BitVec 32 := 0#32
  let c4_i32_60 : BitVec 32 := 4#32
  let v20 : BitVec 32 := Scalar.addi c0_i32_59 c4_i32_60
  let c1_i32_61 : BitVec 32 := 1#32
  ⟨c0_i32_59, v20, c1_i32_61⟩
def k1_off159 (k1_t13 : Fin k1_t13_loop.trips) : Fin 1 → Nat :=
  let c256_i32_119 : BitVec 32 := 256#32
  let c0_i32_59 : BitVec 32 := 0#32
  let c1_i32_61 : BitVec 32 := 1#32
  let arg11 : BitVec 32 := Scf.iv c0_i32_59 c1_i32_61 k1_t13
  let c16_i32_118 : BitVec 32 := 16#32
  let v36 : BitVec 32 := Scalar.muli arg11 c16_i32_118
  let v37 : BitVec 32 := Scalar.addi c256_i32_119 v36
  let v38 : Index := Scalar.indexCast v37
  ![v38.toNat]
def k1_off160 (k1_t13 : Fin k1_t13_loop.trips) : Fin 2 → Nat :=
  let c0_i32_59 : BitVec 32 := 0#32
  let c1_i32_61 : BitVec 32 := 1#32
  let arg11 : BitVec 32 := Scf.iv c0_i32_59 c1_i32_61 k1_t13
  let c16_i32_120 : BitVec 32 := 16#32
  let v43 : BitVec 32 := Scalar.muli arg11 c16_i32_120
  let c0_i32_121 : BitVec 32 := 0#32
  let v44 : BitVec 32 := Scalar.addi v43 c0_i32_121
  let c0_i32_122 : BitVec 32 := 0#32
  ![v44.toNat, 0]
def k1_off161 (v42 : BitVec 32) : Fin 2 → Nat :=
  let c0_i32_123 : BitVec 32 := 0#32
  ![v42.toNat, 0]

def k1_chk65 (v42 : BitVec 32) : Prop :=
  (∀ a, (k1_off161 v42) a + S1x64.size a ≤ S1000000x64.size a)
instance k1_chk65.dec : ∀ (v42 : BitVec 32), Decidable (k1_chk65 v42) := fun v42 => decidable_of_iff' _ (Iff.of_eq (k1_chk65.eq_1 v42))
theorem k1_off161_inb : ∀ (v42 : BitVec 32) (k1_hw65 : k1_chk65 v42), ∀ a, (k1_off161 v42) a + S1x64.size a ≤ S1000000x64.size a := fun v42 k1_hw65 => k1_hw65

def k1_off162 (k1_t13 : Fin k1_t13_loop.trips) (c0_i32_121 : BitVec 32) : Fin 2 → Nat :=
  let c0_i32_59 : BitVec 32 := 0#32
  let c1_i32_61 : BitVec 32 := 1#32
  let arg11 : BitVec 32 := Scf.iv c0_i32_59 c1_i32_61 k1_t13
  let c16_i32_120 : BitVec 32 := 16#32
  let v43 : BitVec 32 := Scalar.muli arg11 c16_i32_120
  let v44 : BitVec 32 := Scalar.addi v43 c0_i32_121
  let c0_i32_124 : BitVec 32 := 0#32
  ![v44.toNat, 0]
def k1_off163 (v54 : BitVec 32) : Fin 2 → Nat :=
  let c0_i32_129 : BitVec 32 := 0#32
  ![v54.toNat, 0]

def k1_chk66 (v54 : BitVec 32) : Prop :=
  (∀ a, (k1_off163 v54) a + S1x64.size a ≤ S1000000x64.size a)
instance k1_chk66.dec : ∀ (v54 : BitVec 32), Decidable (k1_chk66 v54) := fun v54 => decidable_of_iff' _ (Iff.of_eq (k1_chk66.eq_1 v54))
theorem k1_off163_inb : ∀ (v54 : BitVec 32) (k1_hw66 : k1_chk66 v54), ∀ a, (k1_off163 v54) a + S1x64.size a ≤ S1000000x64.size a := fun v54 k1_hw66 => k1_hw66

def k1_off164 (k1_t13 : Fin k1_t13_loop.trips) (c1_i32_127 : BitVec 32) : Fin 2 → Nat :=
  let c0_i32_59 : BitVec 32 := 0#32
  let c1_i32_61 : BitVec 32 := 1#32
  let arg11 : BitVec 32 := Scf.iv c0_i32_59 c1_i32_61 k1_t13
  let c16_i32_126 : BitVec 32 := 16#32
  let v55 : BitVec 32 := Scalar.muli arg11 c16_i32_126
  let v56 : BitVec 32 := Scalar.addi v55 c1_i32_127
  let c0_i32_130 : BitVec 32 := 0#32
  ![v56.toNat, 0]
def k1_off165 (v66 : BitVec 32) : Fin 2 → Nat :=
  let c0_i32_135 : BitVec 32 := 0#32
  ![v66.toNat, 0]

def k1_chk67 (v66 : BitVec 32) : Prop :=
  (∀ a, (k1_off165 v66) a + S1x64.size a ≤ S1000000x64.size a)
instance k1_chk67.dec : ∀ (v66 : BitVec 32), Decidable (k1_chk67 v66) := fun v66 => decidable_of_iff' _ (Iff.of_eq (k1_chk67.eq_1 v66))
theorem k1_off165_inb : ∀ (v66 : BitVec 32) (k1_hw67 : k1_chk67 v66), ∀ a, (k1_off165 v66) a + S1x64.size a ≤ S1000000x64.size a := fun v66 k1_hw67 => k1_hw67

def k1_off166 (k1_t13 : Fin k1_t13_loop.trips) (c2_i32_133 : BitVec 32) : Fin 2 → Nat :=
  let c0_i32_59 : BitVec 32 := 0#32
  let c1_i32_61 : BitVec 32 := 1#32
  let arg11 : BitVec 32 := Scf.iv c0_i32_59 c1_i32_61 k1_t13
  let c16_i32_132 : BitVec 32 := 16#32
  let v67 : BitVec 32 := Scalar.muli arg11 c16_i32_132
  let v68 : BitVec 32 := Scalar.addi v67 c2_i32_133
  let c0_i32_136 : BitVec 32 := 0#32
  ![v68.toNat, 0]
def k1_off167 (v78 : BitVec 32) : Fin 2 → Nat :=
  let c0_i32_140 : BitVec 32 := 0#32
  ![v78.toNat, 0]

def k1_chk68 (v78 : BitVec 32) : Prop :=
  (∀ a, (k1_off167 v78) a + S1x64.size a ≤ S1000000x64.size a)
instance k1_chk68.dec : ∀ (v78 : BitVec 32), Decidable (k1_chk68 v78) := fun v78 => decidable_of_iff' _ (Iff.of_eq (k1_chk68.eq_1 v78))
theorem k1_off167_inb : ∀ (v78 : BitVec 32) (k1_hw68 : k1_chk68 v78), ∀ a, (k1_off167 v78) a + S1x64.size a ≤ S1000000x64.size a := fun v78 k1_hw68 => k1_hw68

def k1_off168 (k1_t13 : Fin k1_t13_loop.trips) (c3_i32 : BitVec 32) : Fin 2 → Nat :=
  let c0_i32_59 : BitVec 32 := 0#32
  let c1_i32_61 : BitVec 32 := 1#32
  let arg11 : BitVec 32 := Scf.iv c0_i32_59 c1_i32_61 k1_t13
  let c16_i32_138 : BitVec 32 := 16#32
  let v79 : BitVec 32 := Scalar.muli arg11 c16_i32_138
  let v80 : BitVec 32 := Scalar.addi v79 c3_i32
  let c0_i32_141 : BitVec 32 := 0#32
  ![v80.toNat, 0]
def k1_off169 (v90 : BitVec 32) : Fin 2 → Nat :=
  let c0_i32_146 : BitVec 32 := 0#32
  ![v90.toNat, 0]

def k1_chk69 (v90 : BitVec 32) : Prop :=
  (∀ a, (k1_off169 v90) a + S1x64.size a ≤ S1000000x64.size a)
instance k1_chk69.dec : ∀ (v90 : BitVec 32), Decidable (k1_chk69 v90) := fun v90 => decidable_of_iff' _ (Iff.of_eq (k1_chk69.eq_1 v90))
theorem k1_off169_inb : ∀ (v90 : BitVec 32) (k1_hw69 : k1_chk69 v90), ∀ a, (k1_off169 v90) a + S1x64.size a ≤ S1000000x64.size a := fun v90 k1_hw69 => k1_hw69

def k1_off170 (k1_t13 : Fin k1_t13_loop.trips) (c4_i32_144 : BitVec 32) : Fin 2 → Nat :=
  let c0_i32_59 : BitVec 32 := 0#32
  let c1_i32_61 : BitVec 32 := 1#32
  let arg11 : BitVec 32 := Scf.iv c0_i32_59 c1_i32_61 k1_t13
  let c16_i32_143 : BitVec 32 := 16#32
  let v91 : BitVec 32 := Scalar.muli arg11 c16_i32_143
  let v92 : BitVec 32 := Scalar.addi v91 c4_i32_144
  let c0_i32_147 : BitVec 32 := 0#32
  ![v92.toNat, 0]
def k1_off171 (v102 : BitVec 32) : Fin 2 → Nat :=
  let c0_i32_151 : BitVec 32 := 0#32
  ![v102.toNat, 0]

def k1_chk70 (v102 : BitVec 32) : Prop :=
  (∀ a, (k1_off171 v102) a + S1x64.size a ≤ S1000000x64.size a)
instance k1_chk70.dec : ∀ (v102 : BitVec 32), Decidable (k1_chk70 v102) := fun v102 => decidable_of_iff' _ (Iff.of_eq (k1_chk70.eq_1 v102))
theorem k1_off171_inb : ∀ (v102 : BitVec 32) (k1_hw70 : k1_chk70 v102), ∀ a, (k1_off171 v102) a + S1x64.size a ≤ S1000000x64.size a := fun v102 k1_hw70 => k1_hw70

def k1_off172 (k1_t13 : Fin k1_t13_loop.trips) (c5_i32 : BitVec 32) : Fin 2 → Nat :=
  let c0_i32_59 : BitVec 32 := 0#32
  let c1_i32_61 : BitVec 32 := 1#32
  let arg11 : BitVec 32 := Scf.iv c0_i32_59 c1_i32_61 k1_t13
  let c16_i32_149 : BitVec 32 := 16#32
  let v103 : BitVec 32 := Scalar.muli arg11 c16_i32_149
  let v104 : BitVec 32 := Scalar.addi v103 c5_i32
  let c0_i32_152 : BitVec 32 := 0#32
  ![v104.toNat, 0]
def k1_off173 (v114 : BitVec 32) : Fin 2 → Nat :=
  let c0_i32_156 : BitVec 32 := 0#32
  ![v114.toNat, 0]

def k1_chk71 (v114 : BitVec 32) : Prop :=
  (∀ a, (k1_off173 v114) a + S1x64.size a ≤ S1000000x64.size a)
instance k1_chk71.dec : ∀ (v114 : BitVec 32), Decidable (k1_chk71 v114) := fun v114 => decidable_of_iff' _ (Iff.of_eq (k1_chk71.eq_1 v114))
theorem k1_off173_inb : ∀ (v114 : BitVec 32) (k1_hw71 : k1_chk71 v114), ∀ a, (k1_off173 v114) a + S1x64.size a ≤ S1000000x64.size a := fun v114 k1_hw71 => k1_hw71

def k1_off174 (k1_t13 : Fin k1_t13_loop.trips) (c6_i32 : BitVec 32) : Fin 2 → Nat :=
  let c0_i32_59 : BitVec 32 := 0#32
  let c1_i32_61 : BitVec 32 := 1#32
  let arg11 : BitVec 32 := Scf.iv c0_i32_59 c1_i32_61 k1_t13
  let c16_i32_154 : BitVec 32 := 16#32
  let v115 : BitVec 32 := Scalar.muli arg11 c16_i32_154
  let v116 : BitVec 32 := Scalar.addi v115 c6_i32
  let c0_i32_157 : BitVec 32 := 0#32
  ![v116.toNat, 0]
def k1_off175 (v126 : BitVec 32) : Fin 2 → Nat :=
  let c0_i32_161 : BitVec 32 := 0#32
  ![v126.toNat, 0]

def k1_chk72 (v126 : BitVec 32) : Prop :=
  (∀ a, (k1_off175 v126) a + S1x64.size a ≤ S1000000x64.size a)
instance k1_chk72.dec : ∀ (v126 : BitVec 32), Decidable (k1_chk72 v126) := fun v126 => decidable_of_iff' _ (Iff.of_eq (k1_chk72.eq_1 v126))
theorem k1_off175_inb : ∀ (v126 : BitVec 32) (k1_hw72 : k1_chk72 v126), ∀ a, (k1_off175 v126) a + S1x64.size a ≤ S1000000x64.size a := fun v126 k1_hw72 => k1_hw72

def k1_off176 (k1_t13 : Fin k1_t13_loop.trips) (c7_i32 : BitVec 32) : Fin 2 → Nat :=
  let c0_i32_59 : BitVec 32 := 0#32
  let c1_i32_61 : BitVec 32 := 1#32
  let arg11 : BitVec 32 := Scf.iv c0_i32_59 c1_i32_61 k1_t13
  let c16_i32_159 : BitVec 32 := 16#32
  let v127 : BitVec 32 := Scalar.muli arg11 c16_i32_159
  let v128 : BitVec 32 := Scalar.addi v127 c7_i32
  let c0_i32_162 : BitVec 32 := 0#32
  ![v128.toNat, 0]
def k1_off177 (v138 : BitVec 32) : Fin 2 → Nat :=
  let c0_i32_166 : BitVec 32 := 0#32
  ![v138.toNat, 0]

def k1_chk73 (v138 : BitVec 32) : Prop :=
  (∀ a, (k1_off177 v138) a + S1x64.size a ≤ S1000000x64.size a)
instance k1_chk73.dec : ∀ (v138 : BitVec 32), Decidable (k1_chk73 v138) := fun v138 => decidable_of_iff' _ (Iff.of_eq (k1_chk73.eq_1 v138))
theorem k1_off177_inb : ∀ (v138 : BitVec 32) (k1_hw73 : k1_chk73 v138), ∀ a, (k1_off177 v138) a + S1x64.size a ≤ S1000000x64.size a := fun v138 k1_hw73 => k1_hw73

def k1_off178 (k1_t13 : Fin k1_t13_loop.trips) (c8_i32 : BitVec 32) : Fin 2 → Nat :=
  let c0_i32_59 : BitVec 32 := 0#32
  let c1_i32_61 : BitVec 32 := 1#32
  let arg11 : BitVec 32 := Scf.iv c0_i32_59 c1_i32_61 k1_t13
  let c16_i32_164 : BitVec 32 := 16#32
  let v139 : BitVec 32 := Scalar.muli arg11 c16_i32_164
  let v140 : BitVec 32 := Scalar.addi v139 c8_i32
  let c0_i32_167 : BitVec 32 := 0#32
  ![v140.toNat, 0]
def k1_off179 (v150 : BitVec 32) : Fin 2 → Nat :=
  let c0_i32_171 : BitVec 32 := 0#32
  ![v150.toNat, 0]

def k1_chk74 (v150 : BitVec 32) : Prop :=
  (∀ a, (k1_off179 v150) a + S1x64.size a ≤ S1000000x64.size a)
instance k1_chk74.dec : ∀ (v150 : BitVec 32), Decidable (k1_chk74 v150) := fun v150 => decidable_of_iff' _ (Iff.of_eq (k1_chk74.eq_1 v150))
theorem k1_off179_inb : ∀ (v150 : BitVec 32) (k1_hw74 : k1_chk74 v150), ∀ a, (k1_off179 v150) a + S1x64.size a ≤ S1000000x64.size a := fun v150 k1_hw74 => k1_hw74

def k1_off180 (k1_t13 : Fin k1_t13_loop.trips) (c9_i32 : BitVec 32) : Fin 2 → Nat :=
  let c0_i32_59 : BitVec 32 := 0#32
  let c1_i32_61 : BitVec 32 := 1#32
  let arg11 : BitVec 32 := Scf.iv c0_i32_59 c1_i32_61 k1_t13
  let c16_i32_169 : BitVec 32 := 16#32
  let v151 : BitVec 32 := Scalar.muli arg11 c16_i32_169
  let v152 : BitVec 32 := Scalar.addi v151 c9_i32
  let c0_i32_172 : BitVec 32 := 0#32
  ![v152.toNat, 0]
def k1_off181 (v162 : BitVec 32) : Fin 2 → Nat :=
  let c0_i32_176 : BitVec 32 := 0#32
  ![v162.toNat, 0]

def k1_chk75 (v162 : BitVec 32) : Prop :=
  (∀ a, (k1_off181 v162) a + S1x64.size a ≤ S1000000x64.size a)
instance k1_chk75.dec : ∀ (v162 : BitVec 32), Decidable (k1_chk75 v162) := fun v162 => decidable_of_iff' _ (Iff.of_eq (k1_chk75.eq_1 v162))
theorem k1_off181_inb : ∀ (v162 : BitVec 32) (k1_hw75 : k1_chk75 v162), ∀ a, (k1_off181 v162) a + S1x64.size a ≤ S1000000x64.size a := fun v162 k1_hw75 => k1_hw75

def k1_off182 (k1_t13 : Fin k1_t13_loop.trips) (c10_i32 : BitVec 32) : Fin 2 → Nat :=
  let c0_i32_59 : BitVec 32 := 0#32
  let c1_i32_61 : BitVec 32 := 1#32
  let arg11 : BitVec 32 := Scf.iv c0_i32_59 c1_i32_61 k1_t13
  let c16_i32_174 : BitVec 32 := 16#32
  let v163 : BitVec 32 := Scalar.muli arg11 c16_i32_174
  let v164 : BitVec 32 := Scalar.addi v163 c10_i32
  let c0_i32_177 : BitVec 32 := 0#32
  ![v164.toNat, 0]
def k1_off183 (v174 : BitVec 32) : Fin 2 → Nat :=
  let c0_i32_181 : BitVec 32 := 0#32
  ![v174.toNat, 0]

def k1_chk76 (v174 : BitVec 32) : Prop :=
  (∀ a, (k1_off183 v174) a + S1x64.size a ≤ S1000000x64.size a)
instance k1_chk76.dec : ∀ (v174 : BitVec 32), Decidable (k1_chk76 v174) := fun v174 => decidable_of_iff' _ (Iff.of_eq (k1_chk76.eq_1 v174))
theorem k1_off183_inb : ∀ (v174 : BitVec 32) (k1_hw76 : k1_chk76 v174), ∀ a, (k1_off183 v174) a + S1x64.size a ≤ S1000000x64.size a := fun v174 k1_hw76 => k1_hw76

def k1_off184 (k1_t13 : Fin k1_t13_loop.trips) (c11_i32 : BitVec 32) : Fin 2 → Nat :=
  let c0_i32_59 : BitVec 32 := 0#32
  let c1_i32_61 : BitVec 32 := 1#32
  let arg11 : BitVec 32 := Scf.iv c0_i32_59 c1_i32_61 k1_t13
  let c16_i32_179 : BitVec 32 := 16#32
  let v175 : BitVec 32 := Scalar.muli arg11 c16_i32_179
  let v176 : BitVec 32 := Scalar.addi v175 c11_i32
  let c0_i32_182 : BitVec 32 := 0#32
  ![v176.toNat, 0]
def k1_off185 (v186 : BitVec 32) : Fin 2 → Nat :=
  let c0_i32_186 : BitVec 32 := 0#32
  ![v186.toNat, 0]

def k1_chk77 (v186 : BitVec 32) : Prop :=
  (∀ a, (k1_off185 v186) a + S1x64.size a ≤ S1000000x64.size a)
instance k1_chk77.dec : ∀ (v186 : BitVec 32), Decidable (k1_chk77 v186) := fun v186 => decidable_of_iff' _ (Iff.of_eq (k1_chk77.eq_1 v186))
theorem k1_off185_inb : ∀ (v186 : BitVec 32) (k1_hw77 : k1_chk77 v186), ∀ a, (k1_off185 v186) a + S1x64.size a ≤ S1000000x64.size a := fun v186 k1_hw77 => k1_hw77

def k1_off186 (k1_t13 : Fin k1_t13_loop.trips) (c12_i32 : BitVec 32) : Fin 2 → Nat :=
  let c0_i32_59 : BitVec 32 := 0#32
  let c1_i32_61 : BitVec 32 := 1#32
  let arg11 : BitVec 32 := Scf.iv c0_i32_59 c1_i32_61 k1_t13
  let c16_i32_184 : BitVec 32 := 16#32
  let v187 : BitVec 32 := Scalar.muli arg11 c16_i32_184
  let v188 : BitVec 32 := Scalar.addi v187 c12_i32
  let c0_i32_187 : BitVec 32 := 0#32
  ![v188.toNat, 0]
def k1_off187 (v198 : BitVec 32) : Fin 2 → Nat :=
  let c0_i32_191 : BitVec 32 := 0#32
  ![v198.toNat, 0]

def k1_chk78 (v198 : BitVec 32) : Prop :=
  (∀ a, (k1_off187 v198) a + S1x64.size a ≤ S1000000x64.size a)
instance k1_chk78.dec : ∀ (v198 : BitVec 32), Decidable (k1_chk78 v198) := fun v198 => decidable_of_iff' _ (Iff.of_eq (k1_chk78.eq_1 v198))
theorem k1_off187_inb : ∀ (v198 : BitVec 32) (k1_hw78 : k1_chk78 v198), ∀ a, (k1_off187 v198) a + S1x64.size a ≤ S1000000x64.size a := fun v198 k1_hw78 => k1_hw78

def k1_off188 (k1_t13 : Fin k1_t13_loop.trips) (c13_i32 : BitVec 32) : Fin 2 → Nat :=
  let c0_i32_59 : BitVec 32 := 0#32
  let c1_i32_61 : BitVec 32 := 1#32
  let arg11 : BitVec 32 := Scf.iv c0_i32_59 c1_i32_61 k1_t13
  let c16_i32_189 : BitVec 32 := 16#32
  let v199 : BitVec 32 := Scalar.muli arg11 c16_i32_189
  let v200 : BitVec 32 := Scalar.addi v199 c13_i32
  let c0_i32_192 : BitVec 32 := 0#32
  ![v200.toNat, 0]
def k1_off189 (v210 : BitVec 32) : Fin 2 → Nat :=
  let c0_i32_196 : BitVec 32 := 0#32
  ![v210.toNat, 0]

def k1_chk79 (v210 : BitVec 32) : Prop :=
  (∀ a, (k1_off189 v210) a + S1x64.size a ≤ S1000000x64.size a)
instance k1_chk79.dec : ∀ (v210 : BitVec 32), Decidable (k1_chk79 v210) := fun v210 => decidable_of_iff' _ (Iff.of_eq (k1_chk79.eq_1 v210))
theorem k1_off189_inb : ∀ (v210 : BitVec 32) (k1_hw79 : k1_chk79 v210), ∀ a, (k1_off189 v210) a + S1x64.size a ≤ S1000000x64.size a := fun v210 k1_hw79 => k1_hw79

def k1_off190 (k1_t13 : Fin k1_t13_loop.trips) (c14_i32 : BitVec 32) : Fin 2 → Nat :=
  let c0_i32_59 : BitVec 32 := 0#32
  let c1_i32_61 : BitVec 32 := 1#32
  let arg11 : BitVec 32 := Scf.iv c0_i32_59 c1_i32_61 k1_t13
  let c16_i32_194 : BitVec 32 := 16#32
  let v211 : BitVec 32 := Scalar.muli arg11 c16_i32_194
  let v212 : BitVec 32 := Scalar.addi v211 c14_i32
  let c0_i32_197 : BitVec 32 := 0#32
  ![v212.toNat, 0]
def k1_off191 (v222 : BitVec 32) : Fin 2 → Nat :=
  let c0_i32_201 : BitVec 32 := 0#32
  ![v222.toNat, 0]

def k1_chk80 (v222 : BitVec 32) : Prop :=
  (∀ a, (k1_off191 v222) a + S1x64.size a ≤ S1000000x64.size a)
instance k1_chk80.dec : ∀ (v222 : BitVec 32), Decidable (k1_chk80 v222) := fun v222 => decidable_of_iff' _ (Iff.of_eq (k1_chk80.eq_1 v222))
theorem k1_off191_inb : ∀ (v222 : BitVec 32) (k1_hw80 : k1_chk80 v222), ∀ a, (k1_off191 v222) a + S1x64.size a ≤ S1000000x64.size a := fun v222 k1_hw80 => k1_hw80

def k1_off192 (k1_t13 : Fin k1_t13_loop.trips) : Fin 2 → Nat :=
  let c0_i32_59 : BitVec 32 := 0#32
  let c1_i32_61 : BitVec 32 := 1#32
  let arg11 : BitVec 32 := Scf.iv c0_i32_59 c1_i32_61 k1_t13
  let c16_i32_199 : BitVec 32 := 16#32
  let v223 : BitVec 32 := Scalar.muli arg11 c16_i32_199
  let c15_i32 : BitVec 32 := 15#32
  let v224 : BitVec 32 := Scalar.addi v223 c15_i32
  let c0_i32_202 : BitVec 32 := 0#32
  ![v224.toNat, 0]
@[reducible] def k1_t14_loop : Scf.Loop 32 :=
  let c0_i32_64 : BitVec 32 := 0#32
  let c64_i32_65 : BitVec 32 := 64#32
  let v21 : BitVec 32 := Scalar.addi c0_i32_64 c64_i32_65
  let c1_i32_66 : BitVec 32 := 1#32
  ⟨c0_i32_64, v21, c1_i32_66⟩
@[reducible] def k1_t15_loop : Scf.Loop 32 :=
  let c0_i32_69 : BitVec 32 := 0#32
  let c64_i32_70 : BitVec 32 := 64#32
  let v22 : BitVec 32 := Scalar.addi c0_i32_69 c64_i32_70
  let c1_i32_71 : BitVec 32 := 1#32
  ⟨c0_i32_69, v22, c1_i32_71⟩
def k1_off193 (k1_t15 : Fin k1_t15_loop.trips) : Fin 2 → Nat :=
  let c0_i32_69 : BitVec 32 := 0#32
  let c1_i32_71 : BitVec 32 := 1#32
  let arg11 : BitVec 32 := Scf.iv c0_i32_69 c1_i32_71 k1_t15
  let v36 : Index := Scalar.indexCast arg11
  let c0 : Index := 0#32
  ![v36.toNat, 0]
def k1_off194 (k1_t15 : Fin k1_t15_loop.trips) : Fin 2 → Nat :=
  let c0_i32_69 : BitVec 32 := 0#32
  let c1_i32_71 : BitVec 32 := 1#32
  let arg11 : BitVec 32 := Scf.iv c0_i32_69 c1_i32_71 k1_t15
  let v43 : Index := Scalar.indexCast arg11
  let c16 : Index := 16#32
  ![v43.toNat, 16]
def k1_off195 (k1_t15 : Fin k1_t15_loop.trips) : Fin 2 → Nat :=
  let c0_i32_69 : BitVec 32 := 0#32
  let c1_i32_71 : BitVec 32 := 1#32
  let arg11 : BitVec 32 := Scf.iv c0_i32_69 c1_i32_71 k1_t15
  let v51 : Index := Scalar.indexCast arg11
  let c32 : Index := 32#32
  ![v51.toNat, 32]
def k1_off196 (k1_t15 : Fin k1_t15_loop.trips) : Fin 2 → Nat :=
  let c0_i32_69 : BitVec 32 := 0#32
  let c1_i32_71 : BitVec 32 := 1#32
  let arg11 : BitVec 32 := Scf.iv c0_i32_69 c1_i32_71 k1_t15
  let v59 : Index := Scalar.indexCast arg11
  let c48 : Index := 48#32
  ![v59.toNat, 48]
def k1_off197 (k1_t15 : Fin k1_t15_loop.trips) : Fin 1 → Nat :=
  let c256_i32_122 : BitVec 32 := 256#32
  let c0_i32_69 : BitVec 32 := 0#32
  let c1_i32_71 : BitVec 32 := 1#32
  let arg11 : BitVec 32 := Scf.iv c0_i32_69 c1_i32_71 k1_t15
  let v67 : BitVec 32 := Scalar.addi c256_i32_122 arg11
  let c16_i32_123 : BitVec 32 := 16#32
  let v68 : BitVec 32 := Scalar.muli v67 c16_i32_123
  let v69 : Index := Scalar.indexCast v68
  ![v69.toNat]
@[reducible] def k1_t16_loop : Scf.Loop 32 :=
  let c0_i32_74 : BitVec 32 := 0#32
  let c4_i32_75 : BitVec 32 := 4#32
  let v24 : BitVec 32 := Scalar.addi c0_i32_74 c4_i32_75
  let c1_i32_76 : BitVec 32 := 1#32
  ⟨c0_i32_74, v24, c1_i32_76⟩
def k1_off198 (k1_t16 : Fin k1_t16_loop.trips) : Fin 1 → Nat :=
  let c320_i32_119 : BitVec 32 := 320#32
  let c0_i32_74 : BitVec 32 := 0#32
  let c1_i32_76 : BitVec 32 := 1#32
  let arg11 : BitVec 32 := Scf.iv c0_i32_74 c1_i32_76 k1_t16
  let c16_i32_118 : BitVec 32 := 16#32
  let v36 : BitVec 32 := Scalar.muli arg11 c16_i32_118
  let v37 : BitVec 32 := Scalar.addi c320_i32_119 v36
  let v38 : Index := Scalar.indexCast v37
  ![v38.toNat]
def k1_off199 (k1_t16 : Fin k1_t16_loop.trips) : Fin 2 → Nat :=
  let c0_i32_74 : BitVec 32 := 0#32
  let c1_i32_76 : BitVec 32 := 1#32
  let arg11 : BitVec 32 := Scf.iv c0_i32_74 c1_i32_76 k1_t16
  let c16_i32_120 : BitVec 32 := 16#32
  let v43 : BitVec 32 := Scalar.muli arg11 c16_i32_120
  let c0_i32_121 : BitVec 32 := 0#32
  let v44 : BitVec 32 := Scalar.addi v43 c0_i32_121
  let c0_i32_122 : BitVec 32 := 0#32
  ![v44.toNat, 0]
def k1_off200 (v42 : BitVec 32) : Fin 2 → Nat :=
  let c0_i32_123 : BitVec 32 := 0#32
  ![v42.toNat, 0]

def k1_chk81 (v42 : BitVec 32) : Prop :=
  (∀ a, (k1_off200 v42) a + S1x64.size a ≤ S1000000x64.size a)
instance k1_chk81.dec : ∀ (v42 : BitVec 32), Decidable (k1_chk81 v42) := fun v42 => decidable_of_iff' _ (Iff.of_eq (k1_chk81.eq_1 v42))
theorem k1_off200_inb : ∀ (v42 : BitVec 32) (k1_hw81 : k1_chk81 v42), ∀ a, (k1_off200 v42) a + S1x64.size a ≤ S1000000x64.size a := fun v42 k1_hw81 => k1_hw81

def k1_off201 (k1_t16 : Fin k1_t16_loop.trips) (c0_i32_121 : BitVec 32) : Fin 2 → Nat :=
  let c0_i32_74 : BitVec 32 := 0#32
  let c1_i32_76 : BitVec 32 := 1#32
  let arg11 : BitVec 32 := Scf.iv c0_i32_74 c1_i32_76 k1_t16
  let c16_i32_120 : BitVec 32 := 16#32
  let v43 : BitVec 32 := Scalar.muli arg11 c16_i32_120
  let v44 : BitVec 32 := Scalar.addi v43 c0_i32_121
  let c0_i32_124 : BitVec 32 := 0#32
  ![v44.toNat, 0]
def k1_off202 (v54 : BitVec 32) : Fin 2 → Nat :=
  let c0_i32_129 : BitVec 32 := 0#32
  ![v54.toNat, 0]

def k1_chk82 (v54 : BitVec 32) : Prop :=
  (∀ a, (k1_off202 v54) a + S1x64.size a ≤ S1000000x64.size a)
instance k1_chk82.dec : ∀ (v54 : BitVec 32), Decidable (k1_chk82 v54) := fun v54 => decidable_of_iff' _ (Iff.of_eq (k1_chk82.eq_1 v54))
theorem k1_off202_inb : ∀ (v54 : BitVec 32) (k1_hw82 : k1_chk82 v54), ∀ a, (k1_off202 v54) a + S1x64.size a ≤ S1000000x64.size a := fun v54 k1_hw82 => k1_hw82

def k1_off203 (k1_t16 : Fin k1_t16_loop.trips) (c1_i32_127 : BitVec 32) : Fin 2 → Nat :=
  let c0_i32_74 : BitVec 32 := 0#32
  let c1_i32_76 : BitVec 32 := 1#32
  let arg11 : BitVec 32 := Scf.iv c0_i32_74 c1_i32_76 k1_t16
  let c16_i32_126 : BitVec 32 := 16#32
  let v55 : BitVec 32 := Scalar.muli arg11 c16_i32_126
  let v56 : BitVec 32 := Scalar.addi v55 c1_i32_127
  let c0_i32_130 : BitVec 32 := 0#32
  ![v56.toNat, 0]
def k1_off204 (v66 : BitVec 32) : Fin 2 → Nat :=
  let c0_i32_135 : BitVec 32 := 0#32
  ![v66.toNat, 0]

def k1_chk83 (v66 : BitVec 32) : Prop :=
  (∀ a, (k1_off204 v66) a + S1x64.size a ≤ S1000000x64.size a)
instance k1_chk83.dec : ∀ (v66 : BitVec 32), Decidable (k1_chk83 v66) := fun v66 => decidable_of_iff' _ (Iff.of_eq (k1_chk83.eq_1 v66))
theorem k1_off204_inb : ∀ (v66 : BitVec 32) (k1_hw83 : k1_chk83 v66), ∀ a, (k1_off204 v66) a + S1x64.size a ≤ S1000000x64.size a := fun v66 k1_hw83 => k1_hw83

def k1_off205 (k1_t16 : Fin k1_t16_loop.trips) (c2_i32_133 : BitVec 32) : Fin 2 → Nat :=
  let c0_i32_74 : BitVec 32 := 0#32
  let c1_i32_76 : BitVec 32 := 1#32
  let arg11 : BitVec 32 := Scf.iv c0_i32_74 c1_i32_76 k1_t16
  let c16_i32_132 : BitVec 32 := 16#32
  let v67 : BitVec 32 := Scalar.muli arg11 c16_i32_132
  let v68 : BitVec 32 := Scalar.addi v67 c2_i32_133
  let c0_i32_136 : BitVec 32 := 0#32
  ![v68.toNat, 0]
def k1_off206 (v78 : BitVec 32) : Fin 2 → Nat :=
  let c0_i32_140 : BitVec 32 := 0#32
  ![v78.toNat, 0]

def k1_chk84 (v78 : BitVec 32) : Prop :=
  (∀ a, (k1_off206 v78) a + S1x64.size a ≤ S1000000x64.size a)
instance k1_chk84.dec : ∀ (v78 : BitVec 32), Decidable (k1_chk84 v78) := fun v78 => decidable_of_iff' _ (Iff.of_eq (k1_chk84.eq_1 v78))
theorem k1_off206_inb : ∀ (v78 : BitVec 32) (k1_hw84 : k1_chk84 v78), ∀ a, (k1_off206 v78) a + S1x64.size a ≤ S1000000x64.size a := fun v78 k1_hw84 => k1_hw84

def k1_off207 (k1_t16 : Fin k1_t16_loop.trips) (c3_i32 : BitVec 32) : Fin 2 → Nat :=
  let c0_i32_74 : BitVec 32 := 0#32
  let c1_i32_76 : BitVec 32 := 1#32
  let arg11 : BitVec 32 := Scf.iv c0_i32_74 c1_i32_76 k1_t16
  let c16_i32_138 : BitVec 32 := 16#32
  let v79 : BitVec 32 := Scalar.muli arg11 c16_i32_138
  let v80 : BitVec 32 := Scalar.addi v79 c3_i32
  let c0_i32_141 : BitVec 32 := 0#32
  ![v80.toNat, 0]
def k1_off208 (v90 : BitVec 32) : Fin 2 → Nat :=
  let c0_i32_146 : BitVec 32 := 0#32
  ![v90.toNat, 0]

def k1_chk85 (v90 : BitVec 32) : Prop :=
  (∀ a, (k1_off208 v90) a + S1x64.size a ≤ S1000000x64.size a)
instance k1_chk85.dec : ∀ (v90 : BitVec 32), Decidable (k1_chk85 v90) := fun v90 => decidable_of_iff' _ (Iff.of_eq (k1_chk85.eq_1 v90))
theorem k1_off208_inb : ∀ (v90 : BitVec 32) (k1_hw85 : k1_chk85 v90), ∀ a, (k1_off208 v90) a + S1x64.size a ≤ S1000000x64.size a := fun v90 k1_hw85 => k1_hw85

def k1_off209 (k1_t16 : Fin k1_t16_loop.trips) (c4_i32_144 : BitVec 32) : Fin 2 → Nat :=
  let c0_i32_74 : BitVec 32 := 0#32
  let c1_i32_76 : BitVec 32 := 1#32
  let arg11 : BitVec 32 := Scf.iv c0_i32_74 c1_i32_76 k1_t16
  let c16_i32_143 : BitVec 32 := 16#32
  let v91 : BitVec 32 := Scalar.muli arg11 c16_i32_143
  let v92 : BitVec 32 := Scalar.addi v91 c4_i32_144
  let c0_i32_147 : BitVec 32 := 0#32
  ![v92.toNat, 0]
def k1_off210 (v102 : BitVec 32) : Fin 2 → Nat :=
  let c0_i32_151 : BitVec 32 := 0#32
  ![v102.toNat, 0]

def k1_chk86 (v102 : BitVec 32) : Prop :=
  (∀ a, (k1_off210 v102) a + S1x64.size a ≤ S1000000x64.size a)
instance k1_chk86.dec : ∀ (v102 : BitVec 32), Decidable (k1_chk86 v102) := fun v102 => decidable_of_iff' _ (Iff.of_eq (k1_chk86.eq_1 v102))
theorem k1_off210_inb : ∀ (v102 : BitVec 32) (k1_hw86 : k1_chk86 v102), ∀ a, (k1_off210 v102) a + S1x64.size a ≤ S1000000x64.size a := fun v102 k1_hw86 => k1_hw86

def k1_off211 (k1_t16 : Fin k1_t16_loop.trips) (c5_i32 : BitVec 32) : Fin 2 → Nat :=
  let c0_i32_74 : BitVec 32 := 0#32
  let c1_i32_76 : BitVec 32 := 1#32
  let arg11 : BitVec 32 := Scf.iv c0_i32_74 c1_i32_76 k1_t16
  let c16_i32_149 : BitVec 32 := 16#32
  let v103 : BitVec 32 := Scalar.muli arg11 c16_i32_149
  let v104 : BitVec 32 := Scalar.addi v103 c5_i32
  let c0_i32_152 : BitVec 32 := 0#32
  ![v104.toNat, 0]
def k1_off212 (v114 : BitVec 32) : Fin 2 → Nat :=
  let c0_i32_156 : BitVec 32 := 0#32
  ![v114.toNat, 0]

def k1_chk87 (v114 : BitVec 32) : Prop :=
  (∀ a, (k1_off212 v114) a + S1x64.size a ≤ S1000000x64.size a)
instance k1_chk87.dec : ∀ (v114 : BitVec 32), Decidable (k1_chk87 v114) := fun v114 => decidable_of_iff' _ (Iff.of_eq (k1_chk87.eq_1 v114))
theorem k1_off212_inb : ∀ (v114 : BitVec 32) (k1_hw87 : k1_chk87 v114), ∀ a, (k1_off212 v114) a + S1x64.size a ≤ S1000000x64.size a := fun v114 k1_hw87 => k1_hw87

def k1_off213 (k1_t16 : Fin k1_t16_loop.trips) (c6_i32 : BitVec 32) : Fin 2 → Nat :=
  let c0_i32_74 : BitVec 32 := 0#32
  let c1_i32_76 : BitVec 32 := 1#32
  let arg11 : BitVec 32 := Scf.iv c0_i32_74 c1_i32_76 k1_t16
  let c16_i32_154 : BitVec 32 := 16#32
  let v115 : BitVec 32 := Scalar.muli arg11 c16_i32_154
  let v116 : BitVec 32 := Scalar.addi v115 c6_i32
  let c0_i32_157 : BitVec 32 := 0#32
  ![v116.toNat, 0]
def k1_off214 (v126 : BitVec 32) : Fin 2 → Nat :=
  let c0_i32_161 : BitVec 32 := 0#32
  ![v126.toNat, 0]

def k1_chk88 (v126 : BitVec 32) : Prop :=
  (∀ a, (k1_off214 v126) a + S1x64.size a ≤ S1000000x64.size a)
instance k1_chk88.dec : ∀ (v126 : BitVec 32), Decidable (k1_chk88 v126) := fun v126 => decidable_of_iff' _ (Iff.of_eq (k1_chk88.eq_1 v126))
theorem k1_off214_inb : ∀ (v126 : BitVec 32) (k1_hw88 : k1_chk88 v126), ∀ a, (k1_off214 v126) a + S1x64.size a ≤ S1000000x64.size a := fun v126 k1_hw88 => k1_hw88

def k1_off215 (k1_t16 : Fin k1_t16_loop.trips) (c7_i32 : BitVec 32) : Fin 2 → Nat :=
  let c0_i32_74 : BitVec 32 := 0#32
  let c1_i32_76 : BitVec 32 := 1#32
  let arg11 : BitVec 32 := Scf.iv c0_i32_74 c1_i32_76 k1_t16
  let c16_i32_159 : BitVec 32 := 16#32
  let v127 : BitVec 32 := Scalar.muli arg11 c16_i32_159
  let v128 : BitVec 32 := Scalar.addi v127 c7_i32
  let c0_i32_162 : BitVec 32 := 0#32
  ![v128.toNat, 0]
def k1_off216 (v138 : BitVec 32) : Fin 2 → Nat :=
  let c0_i32_166 : BitVec 32 := 0#32
  ![v138.toNat, 0]

def k1_chk89 (v138 : BitVec 32) : Prop :=
  (∀ a, (k1_off216 v138) a + S1x64.size a ≤ S1000000x64.size a)
instance k1_chk89.dec : ∀ (v138 : BitVec 32), Decidable (k1_chk89 v138) := fun v138 => decidable_of_iff' _ (Iff.of_eq (k1_chk89.eq_1 v138))
theorem k1_off216_inb : ∀ (v138 : BitVec 32) (k1_hw89 : k1_chk89 v138), ∀ a, (k1_off216 v138) a + S1x64.size a ≤ S1000000x64.size a := fun v138 k1_hw89 => k1_hw89

def k1_off217 (k1_t16 : Fin k1_t16_loop.trips) (c8_i32 : BitVec 32) : Fin 2 → Nat :=
  let c0_i32_74 : BitVec 32 := 0#32
  let c1_i32_76 : BitVec 32 := 1#32
  let arg11 : BitVec 32 := Scf.iv c0_i32_74 c1_i32_76 k1_t16
  let c16_i32_164 : BitVec 32 := 16#32
  let v139 : BitVec 32 := Scalar.muli arg11 c16_i32_164
  let v140 : BitVec 32 := Scalar.addi v139 c8_i32
  let c0_i32_167 : BitVec 32 := 0#32
  ![v140.toNat, 0]
def k1_off218 (v150 : BitVec 32) : Fin 2 → Nat :=
  let c0_i32_171 : BitVec 32 := 0#32
  ![v150.toNat, 0]

def k1_chk90 (v150 : BitVec 32) : Prop :=
  (∀ a, (k1_off218 v150) a + S1x64.size a ≤ S1000000x64.size a)
instance k1_chk90.dec : ∀ (v150 : BitVec 32), Decidable (k1_chk90 v150) := fun v150 => decidable_of_iff' _ (Iff.of_eq (k1_chk90.eq_1 v150))
theorem k1_off218_inb : ∀ (v150 : BitVec 32) (k1_hw90 : k1_chk90 v150), ∀ a, (k1_off218 v150) a + S1x64.size a ≤ S1000000x64.size a := fun v150 k1_hw90 => k1_hw90

def k1_off219 (k1_t16 : Fin k1_t16_loop.trips) (c9_i32 : BitVec 32) : Fin 2 → Nat :=
  let c0_i32_74 : BitVec 32 := 0#32
  let c1_i32_76 : BitVec 32 := 1#32
  let arg11 : BitVec 32 := Scf.iv c0_i32_74 c1_i32_76 k1_t16
  let c16_i32_169 : BitVec 32 := 16#32
  let v151 : BitVec 32 := Scalar.muli arg11 c16_i32_169
  let v152 : BitVec 32 := Scalar.addi v151 c9_i32
  let c0_i32_172 : BitVec 32 := 0#32
  ![v152.toNat, 0]
def k1_off220 (v162 : BitVec 32) : Fin 2 → Nat :=
  let c0_i32_176 : BitVec 32 := 0#32
  ![v162.toNat, 0]

def k1_chk91 (v162 : BitVec 32) : Prop :=
  (∀ a, (k1_off220 v162) a + S1x64.size a ≤ S1000000x64.size a)
instance k1_chk91.dec : ∀ (v162 : BitVec 32), Decidable (k1_chk91 v162) := fun v162 => decidable_of_iff' _ (Iff.of_eq (k1_chk91.eq_1 v162))
theorem k1_off220_inb : ∀ (v162 : BitVec 32) (k1_hw91 : k1_chk91 v162), ∀ a, (k1_off220 v162) a + S1x64.size a ≤ S1000000x64.size a := fun v162 k1_hw91 => k1_hw91

def k1_off221 (k1_t16 : Fin k1_t16_loop.trips) (c10_i32 : BitVec 32) : Fin 2 → Nat :=
  let c0_i32_74 : BitVec 32 := 0#32
  let c1_i32_76 : BitVec 32 := 1#32
  let arg11 : BitVec 32 := Scf.iv c0_i32_74 c1_i32_76 k1_t16
  let c16_i32_174 : BitVec 32 := 16#32
  let v163 : BitVec 32 := Scalar.muli arg11 c16_i32_174
  let v164 : BitVec 32 := Scalar.addi v163 c10_i32
  let c0_i32_177 : BitVec 32 := 0#32
  ![v164.toNat, 0]
def k1_off222 (v174 : BitVec 32) : Fin 2 → Nat :=
  let c0_i32_181 : BitVec 32 := 0#32
  ![v174.toNat, 0]

def k1_chk92 (v174 : BitVec 32) : Prop :=
  (∀ a, (k1_off222 v174) a + S1x64.size a ≤ S1000000x64.size a)
instance k1_chk92.dec : ∀ (v174 : BitVec 32), Decidable (k1_chk92 v174) := fun v174 => decidable_of_iff' _ (Iff.of_eq (k1_chk92.eq_1 v174))
theorem k1_off222_inb : ∀ (v174 : BitVec 32) (k1_hw92 : k1_chk92 v174), ∀ a, (k1_off222 v174) a + S1x64.size a ≤ S1000000x64.size a := fun v174 k1_hw92 => k1_hw92

def k1_off223 (k1_t16 : Fin k1_t16_loop.trips) (c11_i32 : BitVec 32) : Fin 2 → Nat :=
  let c0_i32_74 : BitVec 32 := 0#32
  let c1_i32_76 : BitVec 32 := 1#32
  let arg11 : BitVec 32 := Scf.iv c0_i32_74 c1_i32_76 k1_t16
  let c16_i32_179 : BitVec 32 := 16#32
  let v175 : BitVec 32 := Scalar.muli arg11 c16_i32_179
  let v176 : BitVec 32 := Scalar.addi v175 c11_i32
  let c0_i32_182 : BitVec 32 := 0#32
  ![v176.toNat, 0]
def k1_off224 (v186 : BitVec 32) : Fin 2 → Nat :=
  let c0_i32_186 : BitVec 32 := 0#32
  ![v186.toNat, 0]

def k1_chk93 (v186 : BitVec 32) : Prop :=
  (∀ a, (k1_off224 v186) a + S1x64.size a ≤ S1000000x64.size a)
instance k1_chk93.dec : ∀ (v186 : BitVec 32), Decidable (k1_chk93 v186) := fun v186 => decidable_of_iff' _ (Iff.of_eq (k1_chk93.eq_1 v186))
theorem k1_off224_inb : ∀ (v186 : BitVec 32) (k1_hw93 : k1_chk93 v186), ∀ a, (k1_off224 v186) a + S1x64.size a ≤ S1000000x64.size a := fun v186 k1_hw93 => k1_hw93

def k1_off225 (k1_t16 : Fin k1_t16_loop.trips) (c12_i32 : BitVec 32) : Fin 2 → Nat :=
  let c0_i32_74 : BitVec 32 := 0#32
  let c1_i32_76 : BitVec 32 := 1#32
  let arg11 : BitVec 32 := Scf.iv c0_i32_74 c1_i32_76 k1_t16
  let c16_i32_184 : BitVec 32 := 16#32
  let v187 : BitVec 32 := Scalar.muli arg11 c16_i32_184
  let v188 : BitVec 32 := Scalar.addi v187 c12_i32
  let c0_i32_187 : BitVec 32 := 0#32
  ![v188.toNat, 0]
def k1_off226 (v198 : BitVec 32) : Fin 2 → Nat :=
  let c0_i32_191 : BitVec 32 := 0#32
  ![v198.toNat, 0]

def k1_chk94 (v198 : BitVec 32) : Prop :=
  (∀ a, (k1_off226 v198) a + S1x64.size a ≤ S1000000x64.size a)
instance k1_chk94.dec : ∀ (v198 : BitVec 32), Decidable (k1_chk94 v198) := fun v198 => decidable_of_iff' _ (Iff.of_eq (k1_chk94.eq_1 v198))
theorem k1_off226_inb : ∀ (v198 : BitVec 32) (k1_hw94 : k1_chk94 v198), ∀ a, (k1_off226 v198) a + S1x64.size a ≤ S1000000x64.size a := fun v198 k1_hw94 => k1_hw94

def k1_off227 (k1_t16 : Fin k1_t16_loop.trips) (c13_i32 : BitVec 32) : Fin 2 → Nat :=
  let c0_i32_74 : BitVec 32 := 0#32
  let c1_i32_76 : BitVec 32 := 1#32
  let arg11 : BitVec 32 := Scf.iv c0_i32_74 c1_i32_76 k1_t16
  let c16_i32_189 : BitVec 32 := 16#32
  let v199 : BitVec 32 := Scalar.muli arg11 c16_i32_189
  let v200 : BitVec 32 := Scalar.addi v199 c13_i32
  let c0_i32_192 : BitVec 32 := 0#32
  ![v200.toNat, 0]
def k1_off228 (v210 : BitVec 32) : Fin 2 → Nat :=
  let c0_i32_196 : BitVec 32 := 0#32
  ![v210.toNat, 0]

def k1_chk95 (v210 : BitVec 32) : Prop :=
  (∀ a, (k1_off228 v210) a + S1x64.size a ≤ S1000000x64.size a)
instance k1_chk95.dec : ∀ (v210 : BitVec 32), Decidable (k1_chk95 v210) := fun v210 => decidable_of_iff' _ (Iff.of_eq (k1_chk95.eq_1 v210))
theorem k1_off228_inb : ∀ (v210 : BitVec 32) (k1_hw95 : k1_chk95 v210), ∀ a, (k1_off228 v210) a + S1x64.size a ≤ S1000000x64.size a := fun v210 k1_hw95 => k1_hw95

def k1_off229 (k1_t16 : Fin k1_t16_loop.trips) (c14_i32 : BitVec 32) : Fin 2 → Nat :=
  let c0_i32_74 : BitVec 32 := 0#32
  let c1_i32_76 : BitVec 32 := 1#32
  let arg11 : BitVec 32 := Scf.iv c0_i32_74 c1_i32_76 k1_t16
  let c16_i32_194 : BitVec 32 := 16#32
  let v211 : BitVec 32 := Scalar.muli arg11 c16_i32_194
  let v212 : BitVec 32 := Scalar.addi v211 c14_i32
  let c0_i32_197 : BitVec 32 := 0#32
  ![v212.toNat, 0]
def k1_off230 (v222 : BitVec 32) : Fin 2 → Nat :=
  let c0_i32_201 : BitVec 32 := 0#32
  ![v222.toNat, 0]

def k1_chk96 (v222 : BitVec 32) : Prop :=
  (∀ a, (k1_off230 v222) a + S1x64.size a ≤ S1000000x64.size a)
instance k1_chk96.dec : ∀ (v222 : BitVec 32), Decidable (k1_chk96 v222) := fun v222 => decidable_of_iff' _ (Iff.of_eq (k1_chk96.eq_1 v222))
theorem k1_off230_inb : ∀ (v222 : BitVec 32) (k1_hw96 : k1_chk96 v222), ∀ a, (k1_off230 v222) a + S1x64.size a ≤ S1000000x64.size a := fun v222 k1_hw96 => k1_hw96

def k1_off231 (k1_t16 : Fin k1_t16_loop.trips) : Fin 2 → Nat :=
  let c0_i32_74 : BitVec 32 := 0#32
  let c1_i32_76 : BitVec 32 := 1#32
  let arg11 : BitVec 32 := Scf.iv c0_i32_74 c1_i32_76 k1_t16
  let c16_i32_199 : BitVec 32 := 16#32
  let v223 : BitVec 32 := Scalar.muli arg11 c16_i32_199
  let c15_i32 : BitVec 32 := 15#32
  let v224 : BitVec 32 := Scalar.addi v223 c15_i32
  let c0_i32_202 : BitVec 32 := 0#32
  ![v224.toNat, 0]
@[reducible] def k1_t17_loop : Scf.Loop 32 :=
  let c0_i32_79 : BitVec 32 := 0#32
  let c64_i32_80 : BitVec 32 := 64#32
  let v25 : BitVec 32 := Scalar.addi c0_i32_79 c64_i32_80
  let c1_i32_81 : BitVec 32 := 1#32
  ⟨c0_i32_79, v25, c1_i32_81⟩
@[reducible] def k1_t18_loop : Scf.Loop 32 :=
  let c0_i32_84 : BitVec 32 := 0#32
  let c64_i32_85 : BitVec 32 := 64#32
  let v26 : BitVec 32 := Scalar.addi c0_i32_84 c64_i32_85
  let c1_i32_86 : BitVec 32 := 1#32
  ⟨c0_i32_84, v26, c1_i32_86⟩
def k1_off232 (k1_t18 : Fin k1_t18_loop.trips) : Fin 2 → Nat :=
  let c0_i32_84 : BitVec 32 := 0#32
  let c1_i32_86 : BitVec 32 := 1#32
  let arg11 : BitVec 32 := Scf.iv c0_i32_84 c1_i32_86 k1_t18
  let v36 : Index := Scalar.indexCast arg11
  let c0 : Index := 0#32
  ![v36.toNat, 0]
def k1_off233 (k1_t18 : Fin k1_t18_loop.trips) : Fin 2 → Nat :=
  let c0_i32_84 : BitVec 32 := 0#32
  let c1_i32_86 : BitVec 32 := 1#32
  let arg11 : BitVec 32 := Scf.iv c0_i32_84 c1_i32_86 k1_t18
  let v43 : Index := Scalar.indexCast arg11
  let c16 : Index := 16#32
  ![v43.toNat, 16]
def k1_off234 (k1_t18 : Fin k1_t18_loop.trips) : Fin 2 → Nat :=
  let c0_i32_84 : BitVec 32 := 0#32
  let c1_i32_86 : BitVec 32 := 1#32
  let arg11 : BitVec 32 := Scf.iv c0_i32_84 c1_i32_86 k1_t18
  let v51 : Index := Scalar.indexCast arg11
  let c32 : Index := 32#32
  ![v51.toNat, 32]
def k1_off235 (k1_t18 : Fin k1_t18_loop.trips) : Fin 2 → Nat :=
  let c0_i32_84 : BitVec 32 := 0#32
  let c1_i32_86 : BitVec 32 := 1#32
  let arg11 : BitVec 32 := Scf.iv c0_i32_84 c1_i32_86 k1_t18
  let v59 : Index := Scalar.indexCast arg11
  let c48 : Index := 48#32
  ![v59.toNat, 48]
def k1_off236 (k1_t18 : Fin k1_t18_loop.trips) : Fin 1 → Nat :=
  let c320_i32_122 : BitVec 32 := 320#32
  let c0_i32_84 : BitVec 32 := 0#32
  let c1_i32_86 : BitVec 32 := 1#32
  let arg11 : BitVec 32 := Scf.iv c0_i32_84 c1_i32_86 k1_t18
  let v67 : BitVec 32 := Scalar.addi c320_i32_122 arg11
  let c16_i32_123 : BitVec 32 := 16#32
  let v68 : BitVec 32 := Scalar.muli v67 c16_i32_123
  let v69 : Index := Scalar.indexCast v68
  ![v69.toNat]
@[reducible] def k1_t19_loop : Scf.Loop 32 :=
  let c0_i32_89 : BitVec 32 := 0#32
  let c4_i32_90 : BitVec 32 := 4#32
  let v28 : BitVec 32 := Scalar.addi c0_i32_89 c4_i32_90
  let c1_i32_91 : BitVec 32 := 1#32
  ⟨c0_i32_89, v28, c1_i32_91⟩
def k1_off237 (k1_t19 : Fin k1_t19_loop.trips) : Fin 1 → Nat :=
  let c384_i32_119 : BitVec 32 := 384#32
  let c0_i32_89 : BitVec 32 := 0#32
  let c1_i32_91 : BitVec 32 := 1#32
  let arg11 : BitVec 32 := Scf.iv c0_i32_89 c1_i32_91 k1_t19
  let c16_i32_118 : BitVec 32 := 16#32
  let v36 : BitVec 32 := Scalar.muli arg11 c16_i32_118
  let v37 : BitVec 32 := Scalar.addi c384_i32_119 v36
  let v38 : Index := Scalar.indexCast v37
  ![v38.toNat]
def k1_off238 (k1_t19 : Fin k1_t19_loop.trips) : Fin 2 → Nat :=
  let c0_i32_89 : BitVec 32 := 0#32
  let c1_i32_91 : BitVec 32 := 1#32
  let arg11 : BitVec 32 := Scf.iv c0_i32_89 c1_i32_91 k1_t19
  let c16_i32_120 : BitVec 32 := 16#32
  let v43 : BitVec 32 := Scalar.muli arg11 c16_i32_120
  let c0_i32_121 : BitVec 32 := 0#32
  let v44 : BitVec 32 := Scalar.addi v43 c0_i32_121
  let c0_i32_122 : BitVec 32 := 0#32
  ![v44.toNat, 0]
def k1_off239 (v42 : BitVec 32) : Fin 2 → Nat :=
  let c0_i32_123 : BitVec 32 := 0#32
  ![v42.toNat, 0]

def k1_chk97 (v42 : BitVec 32) : Prop :=
  (∀ a, (k1_off239 v42) a + S1x64.size a ≤ S1000000x64.size a)
instance k1_chk97.dec : ∀ (v42 : BitVec 32), Decidable (k1_chk97 v42) := fun v42 => decidable_of_iff' _ (Iff.of_eq (k1_chk97.eq_1 v42))
theorem k1_off239_inb : ∀ (v42 : BitVec 32) (k1_hw97 : k1_chk97 v42), ∀ a, (k1_off239 v42) a + S1x64.size a ≤ S1000000x64.size a := fun v42 k1_hw97 => k1_hw97

def k1_off240 (k1_t19 : Fin k1_t19_loop.trips) (c0_i32_121 : BitVec 32) : Fin 2 → Nat :=
  let c0_i32_89 : BitVec 32 := 0#32
  let c1_i32_91 : BitVec 32 := 1#32
  let arg11 : BitVec 32 := Scf.iv c0_i32_89 c1_i32_91 k1_t19
  let c16_i32_120 : BitVec 32 := 16#32
  let v43 : BitVec 32 := Scalar.muli arg11 c16_i32_120
  let v44 : BitVec 32 := Scalar.addi v43 c0_i32_121
  let c0_i32_124 : BitVec 32 := 0#32
  ![v44.toNat, 0]
def k1_off241 (v54 : BitVec 32) : Fin 2 → Nat :=
  let c0_i32_129 : BitVec 32 := 0#32
  ![v54.toNat, 0]

def k1_chk98 (v54 : BitVec 32) : Prop :=
  (∀ a, (k1_off241 v54) a + S1x64.size a ≤ S1000000x64.size a)
instance k1_chk98.dec : ∀ (v54 : BitVec 32), Decidable (k1_chk98 v54) := fun v54 => decidable_of_iff' _ (Iff.of_eq (k1_chk98.eq_1 v54))
theorem k1_off241_inb : ∀ (v54 : BitVec 32) (k1_hw98 : k1_chk98 v54), ∀ a, (k1_off241 v54) a + S1x64.size a ≤ S1000000x64.size a := fun v54 k1_hw98 => k1_hw98

def k1_off242 (k1_t19 : Fin k1_t19_loop.trips) (c1_i32_127 : BitVec 32) : Fin 2 → Nat :=
  let c0_i32_89 : BitVec 32 := 0#32
  let c1_i32_91 : BitVec 32 := 1#32
  let arg11 : BitVec 32 := Scf.iv c0_i32_89 c1_i32_91 k1_t19
  let c16_i32_126 : BitVec 32 := 16#32
  let v55 : BitVec 32 := Scalar.muli arg11 c16_i32_126
  let v56 : BitVec 32 := Scalar.addi v55 c1_i32_127
  let c0_i32_130 : BitVec 32 := 0#32
  ![v56.toNat, 0]
def k1_off243 (v66 : BitVec 32) : Fin 2 → Nat :=
  let c0_i32_135 : BitVec 32 := 0#32
  ![v66.toNat, 0]

def k1_chk99 (v66 : BitVec 32) : Prop :=
  (∀ a, (k1_off243 v66) a + S1x64.size a ≤ S1000000x64.size a)
instance k1_chk99.dec : ∀ (v66 : BitVec 32), Decidable (k1_chk99 v66) := fun v66 => decidable_of_iff' _ (Iff.of_eq (k1_chk99.eq_1 v66))
theorem k1_off243_inb : ∀ (v66 : BitVec 32) (k1_hw99 : k1_chk99 v66), ∀ a, (k1_off243 v66) a + S1x64.size a ≤ S1000000x64.size a := fun v66 k1_hw99 => k1_hw99

def k1_off244 (k1_t19 : Fin k1_t19_loop.trips) (c2_i32_133 : BitVec 32) : Fin 2 → Nat :=
  let c0_i32_89 : BitVec 32 := 0#32
  let c1_i32_91 : BitVec 32 := 1#32
  let arg11 : BitVec 32 := Scf.iv c0_i32_89 c1_i32_91 k1_t19
  let c16_i32_132 : BitVec 32 := 16#32
  let v67 : BitVec 32 := Scalar.muli arg11 c16_i32_132
  let v68 : BitVec 32 := Scalar.addi v67 c2_i32_133
  let c0_i32_136 : BitVec 32 := 0#32
  ![v68.toNat, 0]
def k1_off245 (v78 : BitVec 32) : Fin 2 → Nat :=
  let c0_i32_140 : BitVec 32 := 0#32
  ![v78.toNat, 0]

def k1_chk100 (v78 : BitVec 32) : Prop :=
  (∀ a, (k1_off245 v78) a + S1x64.size a ≤ S1000000x64.size a)
instance k1_chk100.dec : ∀ (v78 : BitVec 32), Decidable (k1_chk100 v78) := fun v78 => decidable_of_iff' _ (Iff.of_eq (k1_chk100.eq_1 v78))
theorem k1_off245_inb : ∀ (v78 : BitVec 32) (k1_hw100 : k1_chk100 v78), ∀ a, (k1_off245 v78) a + S1x64.size a ≤ S1000000x64.size a := fun v78 k1_hw100 => k1_hw100

def k1_off246 (k1_t19 : Fin k1_t19_loop.trips) (c3_i32 : BitVec 32) : Fin 2 → Nat :=
  let c0_i32_89 : BitVec 32 := 0#32
  let c1_i32_91 : BitVec 32 := 1#32
  let arg11 : BitVec 32 := Scf.iv c0_i32_89 c1_i32_91 k1_t19
  let c16_i32_138 : BitVec 32 := 16#32
  let v79 : BitVec 32 := Scalar.muli arg11 c16_i32_138
  let v80 : BitVec 32 := Scalar.addi v79 c3_i32
  let c0_i32_141 : BitVec 32 := 0#32
  ![v80.toNat, 0]
def k1_off247 (v90 : BitVec 32) : Fin 2 → Nat :=
  let c0_i32_146 : BitVec 32 := 0#32
  ![v90.toNat, 0]

def k1_chk101 (v90 : BitVec 32) : Prop :=
  (∀ a, (k1_off247 v90) a + S1x64.size a ≤ S1000000x64.size a)
instance k1_chk101.dec : ∀ (v90 : BitVec 32), Decidable (k1_chk101 v90) := fun v90 => decidable_of_iff' _ (Iff.of_eq (k1_chk101.eq_1 v90))
theorem k1_off247_inb : ∀ (v90 : BitVec 32) (k1_hw101 : k1_chk101 v90), ∀ a, (k1_off247 v90) a + S1x64.size a ≤ S1000000x64.size a := fun v90 k1_hw101 => k1_hw101

def k1_off248 (k1_t19 : Fin k1_t19_loop.trips) (c4_i32_144 : BitVec 32) : Fin 2 → Nat :=
  let c0_i32_89 : BitVec 32 := 0#32
  let c1_i32_91 : BitVec 32 := 1#32
  let arg11 : BitVec 32 := Scf.iv c0_i32_89 c1_i32_91 k1_t19
  let c16_i32_143 : BitVec 32 := 16#32
  let v91 : BitVec 32 := Scalar.muli arg11 c16_i32_143
  let v92 : BitVec 32 := Scalar.addi v91 c4_i32_144
  let c0_i32_147 : BitVec 32 := 0#32
  ![v92.toNat, 0]
def k1_off249 (v102 : BitVec 32) : Fin 2 → Nat :=
  let c0_i32_151 : BitVec 32 := 0#32
  ![v102.toNat, 0]

def k1_chk102 (v102 : BitVec 32) : Prop :=
  (∀ a, (k1_off249 v102) a + S1x64.size a ≤ S1000000x64.size a)
instance k1_chk102.dec : ∀ (v102 : BitVec 32), Decidable (k1_chk102 v102) := fun v102 => decidable_of_iff' _ (Iff.of_eq (k1_chk102.eq_1 v102))
theorem k1_off249_inb : ∀ (v102 : BitVec 32) (k1_hw102 : k1_chk102 v102), ∀ a, (k1_off249 v102) a + S1x64.size a ≤ S1000000x64.size a := fun v102 k1_hw102 => k1_hw102

def k1_off250 (k1_t19 : Fin k1_t19_loop.trips) (c5_i32 : BitVec 32) : Fin 2 → Nat :=
  let c0_i32_89 : BitVec 32 := 0#32
  let c1_i32_91 : BitVec 32 := 1#32
  let arg11 : BitVec 32 := Scf.iv c0_i32_89 c1_i32_91 k1_t19
  let c16_i32_149 : BitVec 32 := 16#32
  let v103 : BitVec 32 := Scalar.muli arg11 c16_i32_149
  let v104 : BitVec 32 := Scalar.addi v103 c5_i32
  let c0_i32_152 : BitVec 32 := 0#32
  ![v104.toNat, 0]
def k1_off251 (v114 : BitVec 32) : Fin 2 → Nat :=
  let c0_i32_156 : BitVec 32 := 0#32
  ![v114.toNat, 0]

def k1_chk103 (v114 : BitVec 32) : Prop :=
  (∀ a, (k1_off251 v114) a + S1x64.size a ≤ S1000000x64.size a)
instance k1_chk103.dec : ∀ (v114 : BitVec 32), Decidable (k1_chk103 v114) := fun v114 => decidable_of_iff' _ (Iff.of_eq (k1_chk103.eq_1 v114))
theorem k1_off251_inb : ∀ (v114 : BitVec 32) (k1_hw103 : k1_chk103 v114), ∀ a, (k1_off251 v114) a + S1x64.size a ≤ S1000000x64.size a := fun v114 k1_hw103 => k1_hw103

def k1_off252 (k1_t19 : Fin k1_t19_loop.trips) (c6_i32 : BitVec 32) : Fin 2 → Nat :=
  let c0_i32_89 : BitVec 32 := 0#32
  let c1_i32_91 : BitVec 32 := 1#32
  let arg11 : BitVec 32 := Scf.iv c0_i32_89 c1_i32_91 k1_t19
  let c16_i32_154 : BitVec 32 := 16#32
  let v115 : BitVec 32 := Scalar.muli arg11 c16_i32_154
  let v116 : BitVec 32 := Scalar.addi v115 c6_i32
  let c0_i32_157 : BitVec 32 := 0#32
  ![v116.toNat, 0]
def k1_off253 (v126 : BitVec 32) : Fin 2 → Nat :=
  let c0_i32_161 : BitVec 32 := 0#32
  ![v126.toNat, 0]

def k1_chk104 (v126 : BitVec 32) : Prop :=
  (∀ a, (k1_off253 v126) a + S1x64.size a ≤ S1000000x64.size a)
instance k1_chk104.dec : ∀ (v126 : BitVec 32), Decidable (k1_chk104 v126) := fun v126 => decidable_of_iff' _ (Iff.of_eq (k1_chk104.eq_1 v126))
theorem k1_off253_inb : ∀ (v126 : BitVec 32) (k1_hw104 : k1_chk104 v126), ∀ a, (k1_off253 v126) a + S1x64.size a ≤ S1000000x64.size a := fun v126 k1_hw104 => k1_hw104

def k1_off254 (k1_t19 : Fin k1_t19_loop.trips) (c7_i32 : BitVec 32) : Fin 2 → Nat :=
  let c0_i32_89 : BitVec 32 := 0#32
  let c1_i32_91 : BitVec 32 := 1#32
  let arg11 : BitVec 32 := Scf.iv c0_i32_89 c1_i32_91 k1_t19
  let c16_i32_159 : BitVec 32 := 16#32
  let v127 : BitVec 32 := Scalar.muli arg11 c16_i32_159
  let v128 : BitVec 32 := Scalar.addi v127 c7_i32
  let c0_i32_162 : BitVec 32 := 0#32
  ![v128.toNat, 0]
def k1_off255 (v138 : BitVec 32) : Fin 2 → Nat :=
  let c0_i32_166 : BitVec 32 := 0#32
  ![v138.toNat, 0]

def k1_chk105 (v138 : BitVec 32) : Prop :=
  (∀ a, (k1_off255 v138) a + S1x64.size a ≤ S1000000x64.size a)
instance k1_chk105.dec : ∀ (v138 : BitVec 32), Decidable (k1_chk105 v138) := fun v138 => decidable_of_iff' _ (Iff.of_eq (k1_chk105.eq_1 v138))
theorem k1_off255_inb : ∀ (v138 : BitVec 32) (k1_hw105 : k1_chk105 v138), ∀ a, (k1_off255 v138) a + S1x64.size a ≤ S1000000x64.size a := fun v138 k1_hw105 => k1_hw105

def k1_off256 (k1_t19 : Fin k1_t19_loop.trips) (c8_i32 : BitVec 32) : Fin 2 → Nat :=
  let c0_i32_89 : BitVec 32 := 0#32
  let c1_i32_91 : BitVec 32 := 1#32
  let arg11 : BitVec 32 := Scf.iv c0_i32_89 c1_i32_91 k1_t19
  let c16_i32_164 : BitVec 32 := 16#32
  let v139 : BitVec 32 := Scalar.muli arg11 c16_i32_164
  let v140 : BitVec 32 := Scalar.addi v139 c8_i32
  let c0_i32_167 : BitVec 32 := 0#32
  ![v140.toNat, 0]
def k1_off257 (v150 : BitVec 32) : Fin 2 → Nat :=
  let c0_i32_171 : BitVec 32 := 0#32
  ![v150.toNat, 0]

def k1_chk106 (v150 : BitVec 32) : Prop :=
  (∀ a, (k1_off257 v150) a + S1x64.size a ≤ S1000000x64.size a)
instance k1_chk106.dec : ∀ (v150 : BitVec 32), Decidable (k1_chk106 v150) := fun v150 => decidable_of_iff' _ (Iff.of_eq (k1_chk106.eq_1 v150))
theorem k1_off257_inb : ∀ (v150 : BitVec 32) (k1_hw106 : k1_chk106 v150), ∀ a, (k1_off257 v150) a + S1x64.size a ≤ S1000000x64.size a := fun v150 k1_hw106 => k1_hw106

def k1_off258 (k1_t19 : Fin k1_t19_loop.trips) (c9_i32 : BitVec 32) : Fin 2 → Nat :=
  let c0_i32_89 : BitVec 32 := 0#32
  let c1_i32_91 : BitVec 32 := 1#32
  let arg11 : BitVec 32 := Scf.iv c0_i32_89 c1_i32_91 k1_t19
  let c16_i32_169 : BitVec 32 := 16#32
  let v151 : BitVec 32 := Scalar.muli arg11 c16_i32_169
  let v152 : BitVec 32 := Scalar.addi v151 c9_i32
  let c0_i32_172 : BitVec 32 := 0#32
  ![v152.toNat, 0]
def k1_off259 (v162 : BitVec 32) : Fin 2 → Nat :=
  let c0_i32_176 : BitVec 32 := 0#32
  ![v162.toNat, 0]

def k1_chk107 (v162 : BitVec 32) : Prop :=
  (∀ a, (k1_off259 v162) a + S1x64.size a ≤ S1000000x64.size a)
instance k1_chk107.dec : ∀ (v162 : BitVec 32), Decidable (k1_chk107 v162) := fun v162 => decidable_of_iff' _ (Iff.of_eq (k1_chk107.eq_1 v162))
theorem k1_off259_inb : ∀ (v162 : BitVec 32) (k1_hw107 : k1_chk107 v162), ∀ a, (k1_off259 v162) a + S1x64.size a ≤ S1000000x64.size a := fun v162 k1_hw107 => k1_hw107

def k1_off260 (k1_t19 : Fin k1_t19_loop.trips) (c10_i32 : BitVec 32) : Fin 2 → Nat :=
  let c0_i32_89 : BitVec 32 := 0#32
  let c1_i32_91 : BitVec 32 := 1#32
  let arg11 : BitVec 32 := Scf.iv c0_i32_89 c1_i32_91 k1_t19
  let c16_i32_174 : BitVec 32 := 16#32
  let v163 : BitVec 32 := Scalar.muli arg11 c16_i32_174
  let v164 : BitVec 32 := Scalar.addi v163 c10_i32
  let c0_i32_177 : BitVec 32 := 0#32
  ![v164.toNat, 0]
def k1_off261 (v174 : BitVec 32) : Fin 2 → Nat :=
  let c0_i32_181 : BitVec 32 := 0#32
  ![v174.toNat, 0]

def k1_chk108 (v174 : BitVec 32) : Prop :=
  (∀ a, (k1_off261 v174) a + S1x64.size a ≤ S1000000x64.size a)
instance k1_chk108.dec : ∀ (v174 : BitVec 32), Decidable (k1_chk108 v174) := fun v174 => decidable_of_iff' _ (Iff.of_eq (k1_chk108.eq_1 v174))
theorem k1_off261_inb : ∀ (v174 : BitVec 32) (k1_hw108 : k1_chk108 v174), ∀ a, (k1_off261 v174) a + S1x64.size a ≤ S1000000x64.size a := fun v174 k1_hw108 => k1_hw108

def k1_off262 (k1_t19 : Fin k1_t19_loop.trips) (c11_i32 : BitVec 32) : Fin 2 → Nat :=
  let c0_i32_89 : BitVec 32 := 0#32
  let c1_i32_91 : BitVec 32 := 1#32
  let arg11 : BitVec 32 := Scf.iv c0_i32_89 c1_i32_91 k1_t19
  let c16_i32_179 : BitVec 32 := 16#32
  let v175 : BitVec 32 := Scalar.muli arg11 c16_i32_179
  let v176 : BitVec 32 := Scalar.addi v175 c11_i32
  let c0_i32_182 : BitVec 32 := 0#32
  ![v176.toNat, 0]
def k1_off263 (v186 : BitVec 32) : Fin 2 → Nat :=
  let c0_i32_186 : BitVec 32 := 0#32
  ![v186.toNat, 0]

def k1_chk109 (v186 : BitVec 32) : Prop :=
  (∀ a, (k1_off263 v186) a + S1x64.size a ≤ S1000000x64.size a)
instance k1_chk109.dec : ∀ (v186 : BitVec 32), Decidable (k1_chk109 v186) := fun v186 => decidable_of_iff' _ (Iff.of_eq (k1_chk109.eq_1 v186))
theorem k1_off263_inb : ∀ (v186 : BitVec 32) (k1_hw109 : k1_chk109 v186), ∀ a, (k1_off263 v186) a + S1x64.size a ≤ S1000000x64.size a := fun v186 k1_hw109 => k1_hw109

def k1_off264 (k1_t19 : Fin k1_t19_loop.trips) (c12_i32 : BitVec 32) : Fin 2 → Nat :=
  let c0_i32_89 : BitVec 32 := 0#32
  let c1_i32_91 : BitVec 32 := 1#32
  let arg11 : BitVec 32 := Scf.iv c0_i32_89 c1_i32_91 k1_t19
  let c16_i32_184 : BitVec 32 := 16#32
  let v187 : BitVec 32 := Scalar.muli arg11 c16_i32_184
  let v188 : BitVec 32 := Scalar.addi v187 c12_i32
  let c0_i32_187 : BitVec 32 := 0#32
  ![v188.toNat, 0]
def k1_off265 (v198 : BitVec 32) : Fin 2 → Nat :=
  let c0_i32_191 : BitVec 32 := 0#32
  ![v198.toNat, 0]

def k1_chk110 (v198 : BitVec 32) : Prop :=
  (∀ a, (k1_off265 v198) a + S1x64.size a ≤ S1000000x64.size a)
instance k1_chk110.dec : ∀ (v198 : BitVec 32), Decidable (k1_chk110 v198) := fun v198 => decidable_of_iff' _ (Iff.of_eq (k1_chk110.eq_1 v198))
theorem k1_off265_inb : ∀ (v198 : BitVec 32) (k1_hw110 : k1_chk110 v198), ∀ a, (k1_off265 v198) a + S1x64.size a ≤ S1000000x64.size a := fun v198 k1_hw110 => k1_hw110

def k1_off266 (k1_t19 : Fin k1_t19_loop.trips) (c13_i32 : BitVec 32) : Fin 2 → Nat :=
  let c0_i32_89 : BitVec 32 := 0#32
  let c1_i32_91 : BitVec 32 := 1#32
  let arg11 : BitVec 32 := Scf.iv c0_i32_89 c1_i32_91 k1_t19
  let c16_i32_189 : BitVec 32 := 16#32
  let v199 : BitVec 32 := Scalar.muli arg11 c16_i32_189
  let v200 : BitVec 32 := Scalar.addi v199 c13_i32
  let c0_i32_192 : BitVec 32 := 0#32
  ![v200.toNat, 0]
def k1_off267 (v210 : BitVec 32) : Fin 2 → Nat :=
  let c0_i32_196 : BitVec 32 := 0#32
  ![v210.toNat, 0]

def k1_chk111 (v210 : BitVec 32) : Prop :=
  (∀ a, (k1_off267 v210) a + S1x64.size a ≤ S1000000x64.size a)
instance k1_chk111.dec : ∀ (v210 : BitVec 32), Decidable (k1_chk111 v210) := fun v210 => decidable_of_iff' _ (Iff.of_eq (k1_chk111.eq_1 v210))
theorem k1_off267_inb : ∀ (v210 : BitVec 32) (k1_hw111 : k1_chk111 v210), ∀ a, (k1_off267 v210) a + S1x64.size a ≤ S1000000x64.size a := fun v210 k1_hw111 => k1_hw111

def k1_off268 (k1_t19 : Fin k1_t19_loop.trips) (c14_i32 : BitVec 32) : Fin 2 → Nat :=
  let c0_i32_89 : BitVec 32 := 0#32
  let c1_i32_91 : BitVec 32 := 1#32
  let arg11 : BitVec 32 := Scf.iv c0_i32_89 c1_i32_91 k1_t19
  let c16_i32_194 : BitVec 32 := 16#32
  let v211 : BitVec 32 := Scalar.muli arg11 c16_i32_194
  let v212 : BitVec 32 := Scalar.addi v211 c14_i32
  let c0_i32_197 : BitVec 32 := 0#32
  ![v212.toNat, 0]
def k1_off269 (v222 : BitVec 32) : Fin 2 → Nat :=
  let c0_i32_201 : BitVec 32 := 0#32
  ![v222.toNat, 0]

def k1_chk112 (v222 : BitVec 32) : Prop :=
  (∀ a, (k1_off269 v222) a + S1x64.size a ≤ S1000000x64.size a)
instance k1_chk112.dec : ∀ (v222 : BitVec 32), Decidable (k1_chk112 v222) := fun v222 => decidable_of_iff' _ (Iff.of_eq (k1_chk112.eq_1 v222))
theorem k1_off269_inb : ∀ (v222 : BitVec 32) (k1_hw112 : k1_chk112 v222), ∀ a, (k1_off269 v222) a + S1x64.size a ≤ S1000000x64.size a := fun v222 k1_hw112 => k1_hw112

def k1_off270 (k1_t19 : Fin k1_t19_loop.trips) : Fin 2 → Nat :=
  let c0_i32_89 : BitVec 32 := 0#32
  let c1_i32_91 : BitVec 32 := 1#32
  let arg11 : BitVec 32 := Scf.iv c0_i32_89 c1_i32_91 k1_t19
  let c16_i32_199 : BitVec 32 := 16#32
  let v223 : BitVec 32 := Scalar.muli arg11 c16_i32_199
  let c15_i32 : BitVec 32 := 15#32
  let v224 : BitVec 32 := Scalar.addi v223 c15_i32
  let c0_i32_202 : BitVec 32 := 0#32
  ![v224.toNat, 0]
@[reducible] def k1_t20_loop : Scf.Loop 32 :=
  let c0_i32_94 : BitVec 32 := 0#32
  let c64_i32_95 : BitVec 32 := 64#32
  let v29 : BitVec 32 := Scalar.addi c0_i32_94 c64_i32_95
  let c1_i32_96 : BitVec 32 := 1#32
  ⟨c0_i32_94, v29, c1_i32_96⟩
@[reducible] def k1_t21_loop : Scf.Loop 32 :=
  let c0_i32_99 : BitVec 32 := 0#32
  let c64_i32_100 : BitVec 32 := 64#32
  let v30 : BitVec 32 := Scalar.addi c0_i32_99 c64_i32_100
  let c1_i32_101 : BitVec 32 := 1#32
  ⟨c0_i32_99, v30, c1_i32_101⟩
def k1_off271 (k1_t21 : Fin k1_t21_loop.trips) : Fin 2 → Nat :=
  let c0_i32_99 : BitVec 32 := 0#32
  let c1_i32_101 : BitVec 32 := 1#32
  let arg11 : BitVec 32 := Scf.iv c0_i32_99 c1_i32_101 k1_t21
  let v36 : Index := Scalar.indexCast arg11
  let c0 : Index := 0#32
  ![v36.toNat, 0]
def k1_off272 (k1_t21 : Fin k1_t21_loop.trips) : Fin 2 → Nat :=
  let c0_i32_99 : BitVec 32 := 0#32
  let c1_i32_101 : BitVec 32 := 1#32
  let arg11 : BitVec 32 := Scf.iv c0_i32_99 c1_i32_101 k1_t21
  let v43 : Index := Scalar.indexCast arg11
  let c16 : Index := 16#32
  ![v43.toNat, 16]
def k1_off273 (k1_t21 : Fin k1_t21_loop.trips) : Fin 2 → Nat :=
  let c0_i32_99 : BitVec 32 := 0#32
  let c1_i32_101 : BitVec 32 := 1#32
  let arg11 : BitVec 32 := Scf.iv c0_i32_99 c1_i32_101 k1_t21
  let v51 : Index := Scalar.indexCast arg11
  let c32 : Index := 32#32
  ![v51.toNat, 32]
def k1_off274 (k1_t21 : Fin k1_t21_loop.trips) : Fin 2 → Nat :=
  let c0_i32_99 : BitVec 32 := 0#32
  let c1_i32_101 : BitVec 32 := 1#32
  let arg11 : BitVec 32 := Scf.iv c0_i32_99 c1_i32_101 k1_t21
  let v59 : Index := Scalar.indexCast arg11
  let c48 : Index := 48#32
  ![v59.toNat, 48]
def k1_off275 (k1_t21 : Fin k1_t21_loop.trips) : Fin 1 → Nat :=
  let c384_i32_122 : BitVec 32 := 384#32
  let c0_i32_99 : BitVec 32 := 0#32
  let c1_i32_101 : BitVec 32 := 1#32
  let arg11 : BitVec 32 := Scf.iv c0_i32_99 c1_i32_101 k1_t21
  let v67 : BitVec 32 := Scalar.addi c384_i32_122 arg11
  let c16_i32_123 : BitVec 32 := 16#32
  let v68 : BitVec 32 := Scalar.muli v67 c16_i32_123
  let v69 : Index := Scalar.indexCast v68
  ![v69.toNat]
@[reducible] def k1_t22_loop : Scf.Loop 32 :=
  let c0_i32_104 : BitVec 32 := 0#32
  let c4_i32_105 : BitVec 32 := 4#32
  let v32 : BitVec 32 := Scalar.addi c0_i32_104 c4_i32_105
  let c1_i32_106 : BitVec 32 := 1#32
  ⟨c0_i32_104, v32, c1_i32_106⟩
def k1_off276 (k1_t22 : Fin k1_t22_loop.trips) : Fin 1 → Nat :=
  let c448_i32_119 : BitVec 32 := 448#32
  let c0_i32_104 : BitVec 32 := 0#32
  let c1_i32_106 : BitVec 32 := 1#32
  let arg11 : BitVec 32 := Scf.iv c0_i32_104 c1_i32_106 k1_t22
  let c16_i32_118 : BitVec 32 := 16#32
  let v36 : BitVec 32 := Scalar.muli arg11 c16_i32_118
  let v37 : BitVec 32 := Scalar.addi c448_i32_119 v36
  let v38 : Index := Scalar.indexCast v37
  ![v38.toNat]
def k1_off277 (k1_t22 : Fin k1_t22_loop.trips) : Fin 2 → Nat :=
  let c0_i32_104 : BitVec 32 := 0#32
  let c1_i32_106 : BitVec 32 := 1#32
  let arg11 : BitVec 32 := Scf.iv c0_i32_104 c1_i32_106 k1_t22
  let c16_i32_120 : BitVec 32 := 16#32
  let v43 : BitVec 32 := Scalar.muli arg11 c16_i32_120
  let c0_i32_121 : BitVec 32 := 0#32
  let v44 : BitVec 32 := Scalar.addi v43 c0_i32_121
  let c0_i32_122 : BitVec 32 := 0#32
  ![v44.toNat, 0]
def k1_off278 (v42 : BitVec 32) : Fin 2 → Nat :=
  let c0_i32_123 : BitVec 32 := 0#32
  ![v42.toNat, 0]

def k1_chk113 (v42 : BitVec 32) : Prop :=
  (∀ a, (k1_off278 v42) a + S1x64.size a ≤ S1000000x64.size a)
instance k1_chk113.dec : ∀ (v42 : BitVec 32), Decidable (k1_chk113 v42) := fun v42 => decidable_of_iff' _ (Iff.of_eq (k1_chk113.eq_1 v42))
theorem k1_off278_inb : ∀ (v42 : BitVec 32) (k1_hw113 : k1_chk113 v42), ∀ a, (k1_off278 v42) a + S1x64.size a ≤ S1000000x64.size a := fun v42 k1_hw113 => k1_hw113

def k1_off279 (k1_t22 : Fin k1_t22_loop.trips) (c0_i32_121 : BitVec 32) : Fin 2 → Nat :=
  let c0_i32_104 : BitVec 32 := 0#32
  let c1_i32_106 : BitVec 32 := 1#32
  let arg11 : BitVec 32 := Scf.iv c0_i32_104 c1_i32_106 k1_t22
  let c16_i32_120 : BitVec 32 := 16#32
  let v43 : BitVec 32 := Scalar.muli arg11 c16_i32_120
  let v44 : BitVec 32 := Scalar.addi v43 c0_i32_121
  let c0_i32_124 : BitVec 32 := 0#32
  ![v44.toNat, 0]
def k1_off280 (v54 : BitVec 32) : Fin 2 → Nat :=
  let c0_i32_129 : BitVec 32 := 0#32
  ![v54.toNat, 0]

def k1_chk114 (v54 : BitVec 32) : Prop :=
  (∀ a, (k1_off280 v54) a + S1x64.size a ≤ S1000000x64.size a)
instance k1_chk114.dec : ∀ (v54 : BitVec 32), Decidable (k1_chk114 v54) := fun v54 => decidable_of_iff' _ (Iff.of_eq (k1_chk114.eq_1 v54))
theorem k1_off280_inb : ∀ (v54 : BitVec 32) (k1_hw114 : k1_chk114 v54), ∀ a, (k1_off280 v54) a + S1x64.size a ≤ S1000000x64.size a := fun v54 k1_hw114 => k1_hw114

def k1_off281 (k1_t22 : Fin k1_t22_loop.trips) (c1_i32_127 : BitVec 32) : Fin 2 → Nat :=
  let c0_i32_104 : BitVec 32 := 0#32
  let c1_i32_106 : BitVec 32 := 1#32
  let arg11 : BitVec 32 := Scf.iv c0_i32_104 c1_i32_106 k1_t22
  let c16_i32_126 : BitVec 32 := 16#32
  let v55 : BitVec 32 := Scalar.muli arg11 c16_i32_126
  let v56 : BitVec 32 := Scalar.addi v55 c1_i32_127
  let c0_i32_130 : BitVec 32 := 0#32
  ![v56.toNat, 0]
def k1_off282 (v66 : BitVec 32) : Fin 2 → Nat :=
  let c0_i32_135 : BitVec 32 := 0#32
  ![v66.toNat, 0]

def k1_chk115 (v66 : BitVec 32) : Prop :=
  (∀ a, (k1_off282 v66) a + S1x64.size a ≤ S1000000x64.size a)
instance k1_chk115.dec : ∀ (v66 : BitVec 32), Decidable (k1_chk115 v66) := fun v66 => decidable_of_iff' _ (Iff.of_eq (k1_chk115.eq_1 v66))
theorem k1_off282_inb : ∀ (v66 : BitVec 32) (k1_hw115 : k1_chk115 v66), ∀ a, (k1_off282 v66) a + S1x64.size a ≤ S1000000x64.size a := fun v66 k1_hw115 => k1_hw115

def k1_off283 (k1_t22 : Fin k1_t22_loop.trips) (c2_i32_133 : BitVec 32) : Fin 2 → Nat :=
  let c0_i32_104 : BitVec 32 := 0#32
  let c1_i32_106 : BitVec 32 := 1#32
  let arg11 : BitVec 32 := Scf.iv c0_i32_104 c1_i32_106 k1_t22
  let c16_i32_132 : BitVec 32 := 16#32
  let v67 : BitVec 32 := Scalar.muli arg11 c16_i32_132
  let v68 : BitVec 32 := Scalar.addi v67 c2_i32_133
  let c0_i32_136 : BitVec 32 := 0#32
  ![v68.toNat, 0]
def k1_off284 (v78 : BitVec 32) : Fin 2 → Nat :=
  let c0_i32_140 : BitVec 32 := 0#32
  ![v78.toNat, 0]

def k1_chk116 (v78 : BitVec 32) : Prop :=
  (∀ a, (k1_off284 v78) a + S1x64.size a ≤ S1000000x64.size a)
instance k1_chk116.dec : ∀ (v78 : BitVec 32), Decidable (k1_chk116 v78) := fun v78 => decidable_of_iff' _ (Iff.of_eq (k1_chk116.eq_1 v78))
theorem k1_off284_inb : ∀ (v78 : BitVec 32) (k1_hw116 : k1_chk116 v78), ∀ a, (k1_off284 v78) a + S1x64.size a ≤ S1000000x64.size a := fun v78 k1_hw116 => k1_hw116

def k1_off285 (k1_t22 : Fin k1_t22_loop.trips) (c3_i32 : BitVec 32) : Fin 2 → Nat :=
  let c0_i32_104 : BitVec 32 := 0#32
  let c1_i32_106 : BitVec 32 := 1#32
  let arg11 : BitVec 32 := Scf.iv c0_i32_104 c1_i32_106 k1_t22
  let c16_i32_138 : BitVec 32 := 16#32
  let v79 : BitVec 32 := Scalar.muli arg11 c16_i32_138
  let v80 : BitVec 32 := Scalar.addi v79 c3_i32
  let c0_i32_141 : BitVec 32 := 0#32
  ![v80.toNat, 0]
def k1_off286 (v90 : BitVec 32) : Fin 2 → Nat :=
  let c0_i32_146 : BitVec 32 := 0#32
  ![v90.toNat, 0]

def k1_chk117 (v90 : BitVec 32) : Prop :=
  (∀ a, (k1_off286 v90) a + S1x64.size a ≤ S1000000x64.size a)
instance k1_chk117.dec : ∀ (v90 : BitVec 32), Decidable (k1_chk117 v90) := fun v90 => decidable_of_iff' _ (Iff.of_eq (k1_chk117.eq_1 v90))
theorem k1_off286_inb : ∀ (v90 : BitVec 32) (k1_hw117 : k1_chk117 v90), ∀ a, (k1_off286 v90) a + S1x64.size a ≤ S1000000x64.size a := fun v90 k1_hw117 => k1_hw117

def k1_off287 (k1_t22 : Fin k1_t22_loop.trips) (c4_i32_144 : BitVec 32) : Fin 2 → Nat :=
  let c0_i32_104 : BitVec 32 := 0#32
  let c1_i32_106 : BitVec 32 := 1#32
  let arg11 : BitVec 32 := Scf.iv c0_i32_104 c1_i32_106 k1_t22
  let c16_i32_143 : BitVec 32 := 16#32
  let v91 : BitVec 32 := Scalar.muli arg11 c16_i32_143
  let v92 : BitVec 32 := Scalar.addi v91 c4_i32_144
  let c0_i32_147 : BitVec 32 := 0#32
  ![v92.toNat, 0]
def k1_off288 (v102 : BitVec 32) : Fin 2 → Nat :=
  let c0_i32_151 : BitVec 32 := 0#32
  ![v102.toNat, 0]

def k1_chk118 (v102 : BitVec 32) : Prop :=
  (∀ a, (k1_off288 v102) a + S1x64.size a ≤ S1000000x64.size a)
instance k1_chk118.dec : ∀ (v102 : BitVec 32), Decidable (k1_chk118 v102) := fun v102 => decidable_of_iff' _ (Iff.of_eq (k1_chk118.eq_1 v102))
theorem k1_off288_inb : ∀ (v102 : BitVec 32) (k1_hw118 : k1_chk118 v102), ∀ a, (k1_off288 v102) a + S1x64.size a ≤ S1000000x64.size a := fun v102 k1_hw118 => k1_hw118

def k1_off289 (k1_t22 : Fin k1_t22_loop.trips) (c5_i32 : BitVec 32) : Fin 2 → Nat :=
  let c0_i32_104 : BitVec 32 := 0#32
  let c1_i32_106 : BitVec 32 := 1#32
  let arg11 : BitVec 32 := Scf.iv c0_i32_104 c1_i32_106 k1_t22
  let c16_i32_149 : BitVec 32 := 16#32
  let v103 : BitVec 32 := Scalar.muli arg11 c16_i32_149
  let v104 : BitVec 32 := Scalar.addi v103 c5_i32
  let c0_i32_152 : BitVec 32 := 0#32
  ![v104.toNat, 0]
def k1_off290 (v114 : BitVec 32) : Fin 2 → Nat :=
  let c0_i32_156 : BitVec 32 := 0#32
  ![v114.toNat, 0]

def k1_chk119 (v114 : BitVec 32) : Prop :=
  (∀ a, (k1_off290 v114) a + S1x64.size a ≤ S1000000x64.size a)
instance k1_chk119.dec : ∀ (v114 : BitVec 32), Decidable (k1_chk119 v114) := fun v114 => decidable_of_iff' _ (Iff.of_eq (k1_chk119.eq_1 v114))
theorem k1_off290_inb : ∀ (v114 : BitVec 32) (k1_hw119 : k1_chk119 v114), ∀ a, (k1_off290 v114) a + S1x64.size a ≤ S1000000x64.size a := fun v114 k1_hw119 => k1_hw119

def k1_off291 (k1_t22 : Fin k1_t22_loop.trips) (c6_i32 : BitVec 32) : Fin 2 → Nat :=
  let c0_i32_104 : BitVec 32 := 0#32
  let c1_i32_106 : BitVec 32 := 1#32
  let arg11 : BitVec 32 := Scf.iv c0_i32_104 c1_i32_106 k1_t22
  let c16_i32_154 : BitVec 32 := 16#32
  let v115 : BitVec 32 := Scalar.muli arg11 c16_i32_154
  let v116 : BitVec 32 := Scalar.addi v115 c6_i32
  let c0_i32_157 : BitVec 32 := 0#32
  ![v116.toNat, 0]
def k1_off292 (v126 : BitVec 32) : Fin 2 → Nat :=
  let c0_i32_161 : BitVec 32 := 0#32
  ![v126.toNat, 0]

def k1_chk120 (v126 : BitVec 32) : Prop :=
  (∀ a, (k1_off292 v126) a + S1x64.size a ≤ S1000000x64.size a)
instance k1_chk120.dec : ∀ (v126 : BitVec 32), Decidable (k1_chk120 v126) := fun v126 => decidable_of_iff' _ (Iff.of_eq (k1_chk120.eq_1 v126))
theorem k1_off292_inb : ∀ (v126 : BitVec 32) (k1_hw120 : k1_chk120 v126), ∀ a, (k1_off292 v126) a + S1x64.size a ≤ S1000000x64.size a := fun v126 k1_hw120 => k1_hw120

def k1_off293 (k1_t22 : Fin k1_t22_loop.trips) (c7_i32 : BitVec 32) : Fin 2 → Nat :=
  let c0_i32_104 : BitVec 32 := 0#32
  let c1_i32_106 : BitVec 32 := 1#32
  let arg11 : BitVec 32 := Scf.iv c0_i32_104 c1_i32_106 k1_t22
  let c16_i32_159 : BitVec 32 := 16#32
  let v127 : BitVec 32 := Scalar.muli arg11 c16_i32_159
  let v128 : BitVec 32 := Scalar.addi v127 c7_i32
  let c0_i32_162 : BitVec 32 := 0#32
  ![v128.toNat, 0]
def k1_off294 (v138 : BitVec 32) : Fin 2 → Nat :=
  let c0_i32_166 : BitVec 32 := 0#32
  ![v138.toNat, 0]

def k1_chk121 (v138 : BitVec 32) : Prop :=
  (∀ a, (k1_off294 v138) a + S1x64.size a ≤ S1000000x64.size a)
instance k1_chk121.dec : ∀ (v138 : BitVec 32), Decidable (k1_chk121 v138) := fun v138 => decidable_of_iff' _ (Iff.of_eq (k1_chk121.eq_1 v138))
theorem k1_off294_inb : ∀ (v138 : BitVec 32) (k1_hw121 : k1_chk121 v138), ∀ a, (k1_off294 v138) a + S1x64.size a ≤ S1000000x64.size a := fun v138 k1_hw121 => k1_hw121

def k1_off295 (k1_t22 : Fin k1_t22_loop.trips) (c8_i32 : BitVec 32) : Fin 2 → Nat :=
  let c0_i32_104 : BitVec 32 := 0#32
  let c1_i32_106 : BitVec 32 := 1#32
  let arg11 : BitVec 32 := Scf.iv c0_i32_104 c1_i32_106 k1_t22
  let c16_i32_164 : BitVec 32 := 16#32
  let v139 : BitVec 32 := Scalar.muli arg11 c16_i32_164
  let v140 : BitVec 32 := Scalar.addi v139 c8_i32
  let c0_i32_167 : BitVec 32 := 0#32
  ![v140.toNat, 0]
def k1_off296 (v150 : BitVec 32) : Fin 2 → Nat :=
  let c0_i32_171 : BitVec 32 := 0#32
  ![v150.toNat, 0]

def k1_chk122 (v150 : BitVec 32) : Prop :=
  (∀ a, (k1_off296 v150) a + S1x64.size a ≤ S1000000x64.size a)
instance k1_chk122.dec : ∀ (v150 : BitVec 32), Decidable (k1_chk122 v150) := fun v150 => decidable_of_iff' _ (Iff.of_eq (k1_chk122.eq_1 v150))
theorem k1_off296_inb : ∀ (v150 : BitVec 32) (k1_hw122 : k1_chk122 v150), ∀ a, (k1_off296 v150) a + S1x64.size a ≤ S1000000x64.size a := fun v150 k1_hw122 => k1_hw122

def k1_off297 (k1_t22 : Fin k1_t22_loop.trips) (c9_i32 : BitVec 32) : Fin 2 → Nat :=
  let c0_i32_104 : BitVec 32 := 0#32
  let c1_i32_106 : BitVec 32 := 1#32
  let arg11 : BitVec 32 := Scf.iv c0_i32_104 c1_i32_106 k1_t22
  let c16_i32_169 : BitVec 32 := 16#32
  let v151 : BitVec 32 := Scalar.muli arg11 c16_i32_169
  let v152 : BitVec 32 := Scalar.addi v151 c9_i32
  let c0_i32_172 : BitVec 32 := 0#32
  ![v152.toNat, 0]
def k1_off298 (v162 : BitVec 32) : Fin 2 → Nat :=
  let c0_i32_176 : BitVec 32 := 0#32
  ![v162.toNat, 0]

def k1_chk123 (v162 : BitVec 32) : Prop :=
  (∀ a, (k1_off298 v162) a + S1x64.size a ≤ S1000000x64.size a)
instance k1_chk123.dec : ∀ (v162 : BitVec 32), Decidable (k1_chk123 v162) := fun v162 => decidable_of_iff' _ (Iff.of_eq (k1_chk123.eq_1 v162))
theorem k1_off298_inb : ∀ (v162 : BitVec 32) (k1_hw123 : k1_chk123 v162), ∀ a, (k1_off298 v162) a + S1x64.size a ≤ S1000000x64.size a := fun v162 k1_hw123 => k1_hw123

def k1_off299 (k1_t22 : Fin k1_t22_loop.trips) (c10_i32 : BitVec 32) : Fin 2 → Nat :=
  let c0_i32_104 : BitVec 32 := 0#32
  let c1_i32_106 : BitVec 32 := 1#32
  let arg11 : BitVec 32 := Scf.iv c0_i32_104 c1_i32_106 k1_t22
  let c16_i32_174 : BitVec 32 := 16#32
  let v163 : BitVec 32 := Scalar.muli arg11 c16_i32_174
  let v164 : BitVec 32 := Scalar.addi v163 c10_i32
  let c0_i32_177 : BitVec 32 := 0#32
  ![v164.toNat, 0]
def k1_off300 (v174 : BitVec 32) : Fin 2 → Nat :=
  let c0_i32_181 : BitVec 32 := 0#32
  ![v174.toNat, 0]

def k1_chk124 (v174 : BitVec 32) : Prop :=
  (∀ a, (k1_off300 v174) a + S1x64.size a ≤ S1000000x64.size a)
instance k1_chk124.dec : ∀ (v174 : BitVec 32), Decidable (k1_chk124 v174) := fun v174 => decidable_of_iff' _ (Iff.of_eq (k1_chk124.eq_1 v174))
theorem k1_off300_inb : ∀ (v174 : BitVec 32) (k1_hw124 : k1_chk124 v174), ∀ a, (k1_off300 v174) a + S1x64.size a ≤ S1000000x64.size a := fun v174 k1_hw124 => k1_hw124

def k1_off301 (k1_t22 : Fin k1_t22_loop.trips) (c11_i32 : BitVec 32) : Fin 2 → Nat :=
  let c0_i32_104 : BitVec 32 := 0#32
  let c1_i32_106 : BitVec 32 := 1#32
  let arg11 : BitVec 32 := Scf.iv c0_i32_104 c1_i32_106 k1_t22
  let c16_i32_179 : BitVec 32 := 16#32
  let v175 : BitVec 32 := Scalar.muli arg11 c16_i32_179
  let v176 : BitVec 32 := Scalar.addi v175 c11_i32
  let c0_i32_182 : BitVec 32 := 0#32
  ![v176.toNat, 0]
def k1_off302 (v186 : BitVec 32) : Fin 2 → Nat :=
  let c0_i32_186 : BitVec 32 := 0#32
  ![v186.toNat, 0]

def k1_chk125 (v186 : BitVec 32) : Prop :=
  (∀ a, (k1_off302 v186) a + S1x64.size a ≤ S1000000x64.size a)
instance k1_chk125.dec : ∀ (v186 : BitVec 32), Decidable (k1_chk125 v186) := fun v186 => decidable_of_iff' _ (Iff.of_eq (k1_chk125.eq_1 v186))
theorem k1_off302_inb : ∀ (v186 : BitVec 32) (k1_hw125 : k1_chk125 v186), ∀ a, (k1_off302 v186) a + S1x64.size a ≤ S1000000x64.size a := fun v186 k1_hw125 => k1_hw125

def k1_off303 (k1_t22 : Fin k1_t22_loop.trips) (c12_i32 : BitVec 32) : Fin 2 → Nat :=
  let c0_i32_104 : BitVec 32 := 0#32
  let c1_i32_106 : BitVec 32 := 1#32
  let arg11 : BitVec 32 := Scf.iv c0_i32_104 c1_i32_106 k1_t22
  let c16_i32_184 : BitVec 32 := 16#32
  let v187 : BitVec 32 := Scalar.muli arg11 c16_i32_184
  let v188 : BitVec 32 := Scalar.addi v187 c12_i32
  let c0_i32_187 : BitVec 32 := 0#32
  ![v188.toNat, 0]
def k1_off304 (v198 : BitVec 32) : Fin 2 → Nat :=
  let c0_i32_191 : BitVec 32 := 0#32
  ![v198.toNat, 0]

def k1_chk126 (v198 : BitVec 32) : Prop :=
  (∀ a, (k1_off304 v198) a + S1x64.size a ≤ S1000000x64.size a)
instance k1_chk126.dec : ∀ (v198 : BitVec 32), Decidable (k1_chk126 v198) := fun v198 => decidable_of_iff' _ (Iff.of_eq (k1_chk126.eq_1 v198))
theorem k1_off304_inb : ∀ (v198 : BitVec 32) (k1_hw126 : k1_chk126 v198), ∀ a, (k1_off304 v198) a + S1x64.size a ≤ S1000000x64.size a := fun v198 k1_hw126 => k1_hw126

def k1_off305 (k1_t22 : Fin k1_t22_loop.trips) (c13_i32 : BitVec 32) : Fin 2 → Nat :=
  let c0_i32_104 : BitVec 32 := 0#32
  let c1_i32_106 : BitVec 32 := 1#32
  let arg11 : BitVec 32 := Scf.iv c0_i32_104 c1_i32_106 k1_t22
  let c16_i32_189 : BitVec 32 := 16#32
  let v199 : BitVec 32 := Scalar.muli arg11 c16_i32_189
  let v200 : BitVec 32 := Scalar.addi v199 c13_i32
  let c0_i32_192 : BitVec 32 := 0#32
  ![v200.toNat, 0]
def k1_off306 (v210 : BitVec 32) : Fin 2 → Nat :=
  let c0_i32_196 : BitVec 32 := 0#32
  ![v210.toNat, 0]

def k1_chk127 (v210 : BitVec 32) : Prop :=
  (∀ a, (k1_off306 v210) a + S1x64.size a ≤ S1000000x64.size a)
instance k1_chk127.dec : ∀ (v210 : BitVec 32), Decidable (k1_chk127 v210) := fun v210 => decidable_of_iff' _ (Iff.of_eq (k1_chk127.eq_1 v210))
theorem k1_off306_inb : ∀ (v210 : BitVec 32) (k1_hw127 : k1_chk127 v210), ∀ a, (k1_off306 v210) a + S1x64.size a ≤ S1000000x64.size a := fun v210 k1_hw127 => k1_hw127

def k1_off307 (k1_t22 : Fin k1_t22_loop.trips) (c14_i32 : BitVec 32) : Fin 2 → Nat :=
  let c0_i32_104 : BitVec 32 := 0#32
  let c1_i32_106 : BitVec 32 := 1#32
  let arg11 : BitVec 32 := Scf.iv c0_i32_104 c1_i32_106 k1_t22
  let c16_i32_194 : BitVec 32 := 16#32
  let v211 : BitVec 32 := Scalar.muli arg11 c16_i32_194
  let v212 : BitVec 32 := Scalar.addi v211 c14_i32
  let c0_i32_197 : BitVec 32 := 0#32
  ![v212.toNat, 0]
def k1_off308 (v222 : BitVec 32) : Fin 2 → Nat :=
  let c0_i32_201 : BitVec 32 := 0#32
  ![v222.toNat, 0]

def k1_chk128 (v222 : BitVec 32) : Prop :=
  (∀ a, (k1_off308 v222) a + S1x64.size a ≤ S1000000x64.size a)
instance k1_chk128.dec : ∀ (v222 : BitVec 32), Decidable (k1_chk128 v222) := fun v222 => decidable_of_iff' _ (Iff.of_eq (k1_chk128.eq_1 v222))
theorem k1_off308_inb : ∀ (v222 : BitVec 32) (k1_hw128 : k1_chk128 v222), ∀ a, (k1_off308 v222) a + S1x64.size a ≤ S1000000x64.size a := fun v222 k1_hw128 => k1_hw128

def k1_off309 (k1_t22 : Fin k1_t22_loop.trips) : Fin 2 → Nat :=
  let c0_i32_104 : BitVec 32 := 0#32
  let c1_i32_106 : BitVec 32 := 1#32
  let arg11 : BitVec 32 := Scf.iv c0_i32_104 c1_i32_106 k1_t22
  let c16_i32_199 : BitVec 32 := 16#32
  let v223 : BitVec 32 := Scalar.muli arg11 c16_i32_199
  let c15_i32 : BitVec 32 := 15#32
  let v224 : BitVec 32 := Scalar.addi v223 c15_i32
  let c0_i32_202 : BitVec 32 := 0#32
  ![v224.toNat, 0]
@[reducible] def k1_t23_loop : Scf.Loop 32 :=
  let c0_i32_109 : BitVec 32 := 0#32
  let c64_i32_110 : BitVec 32 := 64#32
  let v33 : BitVec 32 := Scalar.addi c0_i32_109 c64_i32_110
  let c1_i32_111 : BitVec 32 := 1#32
  ⟨c0_i32_109, v33, c1_i32_111⟩
@[reducible] def k1_t24_loop : Scf.Loop 32 :=
  let c0_i32_114 : BitVec 32 := 0#32
  let c64_i32_115 : BitVec 32 := 64#32
  let v34 : BitVec 32 := Scalar.addi c0_i32_114 c64_i32_115
  let c1_i32_116 : BitVec 32 := 1#32
  ⟨c0_i32_114, v34, c1_i32_116⟩
def k1_off310 (k1_t24 : Fin k1_t24_loop.trips) : Fin 2 → Nat :=
  let c0_i32_114 : BitVec 32 := 0#32
  let c1_i32_116 : BitVec 32 := 1#32
  let arg11 : BitVec 32 := Scf.iv c0_i32_114 c1_i32_116 k1_t24
  let v36 : Index := Scalar.indexCast arg11
  let c0 : Index := 0#32
  ![v36.toNat, 0]
def k1_off311 (k1_t24 : Fin k1_t24_loop.trips) : Fin 2 → Nat :=
  let c0_i32_114 : BitVec 32 := 0#32
  let c1_i32_116 : BitVec 32 := 1#32
  let arg11 : BitVec 32 := Scf.iv c0_i32_114 c1_i32_116 k1_t24
  let v43 : Index := Scalar.indexCast arg11
  let c16 : Index := 16#32
  ![v43.toNat, 16]
def k1_off312 (k1_t24 : Fin k1_t24_loop.trips) : Fin 2 → Nat :=
  let c0_i32_114 : BitVec 32 := 0#32
  let c1_i32_116 : BitVec 32 := 1#32
  let arg11 : BitVec 32 := Scf.iv c0_i32_114 c1_i32_116 k1_t24
  let v51 : Index := Scalar.indexCast arg11
  let c32 : Index := 32#32
  ![v51.toNat, 32]
def k1_off313 (k1_t24 : Fin k1_t24_loop.trips) : Fin 2 → Nat :=
  let c0_i32_114 : BitVec 32 := 0#32
  let c1_i32_116 : BitVec 32 := 1#32
  let arg11 : BitVec 32 := Scf.iv c0_i32_114 c1_i32_116 k1_t24
  let v59 : Index := Scalar.indexCast arg11
  let c48 : Index := 48#32
  ![v59.toNat, 48]
def k1_off314 (k1_t24 : Fin k1_t24_loop.trips) : Fin 1 → Nat :=
  let c448_i32_122 : BitVec 32 := 448#32
  let c0_i32_114 : BitVec 32 := 0#32
  let c1_i32_116 : BitVec 32 := 1#32
  let arg11 : BitVec 32 := Scf.iv c0_i32_114 c1_i32_116 k1_t24
  let v67 : BitVec 32 := Scalar.addi c448_i32_122 arg11
  let c16_i32_123 : BitVec 32 := 16#32
  let v68 : BitVec 32 := Scalar.muli v67 c16_i32_123
  let v69 : Index := Scalar.indexCast v68
  ![v69.toNat]
def k1_off315 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c16_i32 : BitVec 32 := 16#32
  let v35 : BitVec 32 := Scalar.muli v2 c16_i32
  ![v35.toNat]
abbrev grid2 : Pipeline.Grid := .none

abbrev stage2_0 : Fin 1 → Memref sig .tc .vmem S10240x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S2048x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .smem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class K0.R1.Facts₀ : Prop where
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ a, (k0_off2 i) a + S2560.size a ≤ S81920.size a
  k0_t1_ok : k0_t1_loop.OK
  k0_off3_inb : ∀ k0_t1 : Fin k0_t1_loop.trips, ∀ a, (k0_off3 k0_t1) a + S16.size a ≤ S512.size a
  k0_off4_inb : ∀ k0_t1 : Fin k0_t1_loop.trips, ∀ (r : Fin 5), ∀ a, (k0_off4 k0_t1 (BitVec.ofNat 32 (16 * r.val))) a + S16.size a ≤ S2560.size a
  k0_off5_inb : ∀ k0_t1 : Fin k0_t1_loop.trips, ∀ a, (k0_off5 k0_t1) a + S1x64.size a ≤ S64x64.size a
  k0_off7_inb : ∀ k0_t1 : Fin k0_t1_loop.trips, ∀ a, (k0_off7 k0_t1) a + S1x64.size a ≤ S64x64.size a
  k0_off8_inb : ∀ k0_t1 : Fin k0_t1_loop.trips, ∀ a, (k0_off8 k0_t1) a + S1x64.size a ≤ S320x64.size a
  k0_off10_inb : ∀ k0_t1 : Fin k0_t1_loop.trips, ∀ (r : Fin 2), ∀ a, (k0_off10 k0_t1 (BitVec.ofNat 32 r.val)) a + S1x64.size a ≤ S320x64.size a
  k0_off12_inb : ∀ k0_t1 : Fin k0_t1_loop.trips, ∀ (r : Fin 2), ∀ a, (k0_off12 k0_t1 (BitVec.ofNat 32 (1 + r.val))) a + S1x64.size a ≤ S320x64.size a
  k0_off14_inb : ∀ k0_t1 : Fin k0_t1_loop.trips, ∀ (r : Fin 2), ∀ a, (k0_off14 k0_t1 (BitVec.ofNat 32 (2 + r.val))) a + S1x64.size a ≤ S320x64.size a
  k0_off16_inb : ∀ k0_t1 : Fin k0_t1_loop.trips, ∀ (r : Fin 2), ∀ a, (k0_off16 k0_t1 (BitVec.ofNat 32 (3 + r.val))) a + S1x64.size a ≤ S320x64.size a
  k0_off18_inb : ∀ k0_t1 : Fin k0_t1_loop.trips, ∀ a, (k0_off18 k0_t1) a + S1x64.size a ≤ S320x64.size a
  k0_off19_inb : ∀ k0_t1 : Fin k0_t1_loop.trips, ∀ a, (k0_off19 k0_t1) a + S1x64.size a ≤ S64x64.size a
  k0_off21_inb : ∀ k0_t1 : Fin k0_t1_loop.trips, ∀ a, (k0_off21 k0_t1) a + S1x64.size a ≤ S64x64.size a
  k0_off22_inb : ∀ k0_t1 : Fin k0_t1_loop.trips, ∀ a, (k0_off22 k0_t1) a + S1x64.size a ≤ S320x64.size a
  k0_off24_inb : ∀ k0_t1 : Fin k0_t1_loop.trips, ∀ (r : Fin 2), ∀ a, (k0_off24 k0_t1 (BitVec.ofNat 32 r.val)) a + S1x64.size a ≤ S320x64.size a
  k0_off26_inb : ∀ k0_t1 : Fin k0_t1_loop.trips, ∀ (r : Fin 2), ∀ a, (k0_off26 k0_t1 (BitVec.ofNat 32 (1 + r.val))) a + S1x64.size a ≤ S320x64.size a
  k0_off28_inb : ∀ k0_t1 : Fin k0_t1_loop.trips, ∀ (r : Fin 2), ∀ a, (k0_off28 k0_t1 (BitVec.ofNat 32 (2 + r.val))) a + S1x64.size a ≤ S320x64.size a
  k0_off30_inb : ∀ k0_t1 : Fin k0_t1_loop.trips, ∀ (r : Fin 2), ∀ a, (k0_off30 k0_t1 (BitVec.ofNat 32 (3 + r.val))) a + S1x64.size a ≤ S320x64.size a
  k0_off32_inb : ∀ k0_t1 : Fin k0_t1_loop.trips, ∀ a, (k0_off32 k0_t1) a + S1x64.size a ≤ S320x64.size a
  k0_off33_inb : ∀ k0_t1 : Fin k0_t1_loop.trips, ∀ a, (k0_off33 k0_t1) a + S1x64.size a ≤ S64x64.size a
  k0_off35_inb : ∀ k0_t1 : Fin k0_t1_loop.trips, ∀ a, (k0_off35 k0_t1) a + S1x64.size a ≤ S64x64.size a
  k0_off36_inb : ∀ k0_t1 : Fin k0_t1_loop.trips, ∀ a, (k0_off36 k0_t1) a + S1x64.size a ≤ S320x64.size a
  k0_off38_inb : ∀ k0_t1 : Fin k0_t1_loop.trips, ∀ (r : Fin 2), ∀ a, (k0_off38 k0_t1 (BitVec.ofNat 32 r.val)) a + S1x64.size a ≤ S320x64.size a
  k0_off40_inb : ∀ k0_t1 : Fin k0_t1_loop.trips, ∀ (r : Fin 2), ∀ a, (k0_off40 k0_t1 (BitVec.ofNat 32 (1 + r.val))) a + S1x64.size a ≤ S320x64.size a
  k0_off42_inb : ∀ k0_t1 : Fin k0_t1_loop.trips, ∀ (r : Fin 2), ∀ a, (k0_off42 k0_t1 (BitVec.ofNat 32 (2 + r.val))) a + S1x64.size a ≤ S320x64.size a
  k0_off44_inb : ∀ k0_t1 : Fin k0_t1_loop.trips, ∀ (r : Fin 2), ∀ a, (k0_off44 k0_t1 (BitVec.ofNat 32 (3 + r.val))) a + S1x64.size a ≤ S320x64.size a
  k0_off46_inb : ∀ k0_t1 : Fin k0_t1_loop.trips, ∀ a, (k0_off46 k0_t1) a + S1x64.size a ≤ S320x64.size a
  k0_off47_inb : ∀ k0_t1 : Fin k0_t1_loop.trips, ∀ a, (k0_off47 k0_t1) a + S1x64.size a ≤ S64x64.size a
  k0_off49_inb : ∀ k0_t1 : Fin k0_t1_loop.trips, ∀ a, (k0_off49 k0_t1) a + S1x64.size a ≤ S64x64.size a
  k0_off50_inb : ∀ k0_t1 : Fin k0_t1_loop.trips, ∀ a, (k0_off50 k0_t1) a + S1x64.size a ≤ S320x64.size a
  k0_off52_inb : ∀ k0_t1 : Fin k0_t1_loop.trips, ∀ (r : Fin 2), ∀ a, (k0_off52 k0_t1 (BitVec.ofNat 32 r.val)) a + S1x64.size a ≤ S320x64.size a
  k0_off54_inb : ∀ k0_t1 : Fin k0_t1_loop.trips, ∀ (r : Fin 2), ∀ a, (k0_off54 k0_t1 (BitVec.ofNat 32 (1 + r.val))) a + S1x64.size a ≤ S320x64.size a
  k0_off56_inb : ∀ k0_t1 : Fin k0_t1_loop.trips, ∀ (r : Fin 2), ∀ a, (k0_off56 k0_t1 (BitVec.ofNat 32 (2 + r.val))) a + S1x64.size a ≤ S320x64.size a
  k0_off58_inb : ∀ k0_t1 : Fin k0_t1_loop.trips, ∀ (r : Fin 2), ∀ a, (k0_off58 k0_t1 (BitVec.ofNat 32 (3 + r.val))) a + S1x64.size a ≤ S320x64.size a
  k0_off60_inb : ∀ k0_t1 : Fin k0_t1_loop.trips, ∀ a, (k0_off60 k0_t1) a + S1x64.size a ≤ S320x64.size a
  k0_off61_inb : ∀ k0_t1 : Fin k0_t1_loop.trips, ∀ a, (k0_off61 k0_t1) a + S1x64.size a ≤ S64x64.size a
  k0_off63_inb : ∀ k0_t1 : Fin k0_t1_loop.trips, ∀ a, (k0_off63 k0_t1) a + S1x64.size a ≤ S64x64.size a
  k0_off64_inb : ∀ k0_t1 : Fin k0_t1_loop.trips, ∀ a, (k0_off64 k0_t1) a + S1x64.size a ≤ S320x64.size a
  k0_off66_inb : ∀ k0_t1 : Fin k0_t1_loop.trips, ∀ (r : Fin 2), ∀ a, (k0_off66 k0_t1 (BitVec.ofNat 32 r.val)) a + S1x64.size a ≤ S320x64.size a
  k0_off68_inb : ∀ k0_t1 : Fin k0_t1_loop.trips, ∀ (r : Fin 2), ∀ a, (k0_off68 k0_t1 (BitVec.ofNat 32 (1 + r.val))) a + S1x64.size a ≤ S320x64.size a
  k0_off70_inb : ∀ k0_t1 : Fin k0_t1_loop.trips, ∀ (r : Fin 2), ∀ a, (k0_off70 k0_t1 (BitVec.ofNat 32 (2 + r.val))) a + S1x64.size a ≤ S320x64.size a
  k0_off72_inb : ∀ k0_t1 : Fin k0_t1_loop.trips, ∀ (r : Fin 2), ∀ a, (k0_off72 k0_t1 (BitVec.ofNat 32 (3 + r.val))) a + S1x64.size a ≤ S320x64.size a
  k0_off74_inb : ∀ k0_t1 : Fin k0_t1_loop.trips, ∀ a, (k0_off74 k0_t1) a + S1x64.size a ≤ S320x64.size a
  k0_off75_inb : ∀ k0_t1 : Fin k0_t1_loop.trips, ∀ a, (k0_off75 k0_t1) a + S1x64.size a ≤ S64x64.size a
  k0_off77_inb : ∀ k0_t1 : Fin k0_t1_loop.trips, ∀ a, (k0_off77 k0_t1) a + S1x64.size a ≤ S64x64.size a
  k0_off78_inb : ∀ k0_t1 : Fin k0_t1_loop.trips, ∀ a, (k0_off78 k0_t1) a + S1x64.size a ≤ S320x64.size a
  k0_off80_inb : ∀ k0_t1 : Fin k0_t1_loop.trips, ∀ (r : Fin 2), ∀ a, (k0_off80 k0_t1 (BitVec.ofNat 32 r.val)) a + S1x64.size a ≤ S320x64.size a
  k0_off82_inb : ∀ k0_t1 : Fin k0_t1_loop.trips, ∀ (r : Fin 2), ∀ a, (k0_off82 k0_t1 (BitVec.ofNat 32 (1 + r.val))) a + S1x64.size a ≤ S320x64.size a
  k0_off84_inb : ∀ k0_t1 : Fin k0_t1_loop.trips, ∀ (r : Fin 2), ∀ a, (k0_off84 k0_t1 (BitVec.ofNat 32 (2 + r.val))) a + S1x64.size a ≤ S320x64.size a
  k0_off86_inb : ∀ k0_t1 : Fin k0_t1_loop.trips, ∀ (r : Fin 2), ∀ a, (k0_off86 k0_t1 (BitVec.ofNat 32 (3 + r.val))) a + S1x64.size a ≤ S320x64.size a
  k0_off88_inb : ∀ k0_t1 : Fin k0_t1_loop.trips, ∀ a, (k0_off88 k0_t1) a + S1x64.size a ≤ S320x64.size a
  k0_off89_inb : ∀ k0_t1 : Fin k0_t1_loop.trips, ∀ a, (k0_off89 k0_t1) a + S1x64.size a ≤ S64x64.size a
  k0_off91_inb : ∀ k0_t1 : Fin k0_t1_loop.trips, ∀ a, (k0_off91 k0_t1) a + S1x64.size a ≤ S64x64.size a
  k0_off92_inb : ∀ k0_t1 : Fin k0_t1_loop.trips, ∀ a, (k0_off92 k0_t1) a + S1x64.size a ≤ S320x64.size a
  k0_off94_inb : ∀ k0_t1 : Fin k0_t1_loop.trips, ∀ (r : Fin 2), ∀ a, (k0_off94 k0_t1 (BitVec.ofNat 32 r.val)) a + S1x64.size a ≤ S320x64.size a
  k0_off96_inb : ∀ k0_t1 : Fin k0_t1_loop.trips, ∀ (r : Fin 2), ∀ a, (k0_off96 k0_t1 (BitVec.ofNat 32 (1 + r.val))) a + S1x64.size a ≤ S320x64.size a
  k0_off98_inb : ∀ k0_t1 : Fin k0_t1_loop.trips, ∀ (r : Fin 2), ∀ a, (k0_off98 k0_t1 (BitVec.ofNat 32 (2 + r.val))) a + S1x64.size a ≤ S320x64.size a
  k0_off100_inb : ∀ k0_t1 : Fin k0_t1_loop.trips, ∀ (r : Fin 2), ∀ a, (k0_off100 k0_t1 (BitVec.ofNat 32 (3 + r.val))) a + S1x64.size a ≤ S320x64.size a
  k0_off102_inb : ∀ k0_t1 : Fin k0_t1_loop.trips, ∀ a, (k0_off102 k0_t1) a + S1x64.size a ≤ S320x64.size a
  k0_off103_inb : ∀ k0_t1 : Fin k0_t1_loop.trips, ∀ a, (k0_off103 k0_t1) a + S1x64.size a ≤ S64x64.size a
  k0_off105_inb : ∀ k0_t1 : Fin k0_t1_loop.trips, ∀ a, (k0_off105 k0_t1) a + S1x64.size a ≤ S64x64.size a
  k0_off106_inb : ∀ k0_t1 : Fin k0_t1_loop.trips, ∀ a, (k0_off106 k0_t1) a + S1x64.size a ≤ S320x64.size a
  k0_off108_inb : ∀ k0_t1 : Fin k0_t1_loop.trips, ∀ (r : Fin 2), ∀ a, (k0_off108 k0_t1 (BitVec.ofNat 32 r.val)) a + S1x64.size a ≤ S320x64.size a
  k0_off110_inb : ∀ k0_t1 : Fin k0_t1_loop.trips, ∀ (r : Fin 2), ∀ a, (k0_off110 k0_t1 (BitVec.ofNat 32 (1 + r.val))) a + S1x64.size a ≤ S320x64.size a
  k0_off112_inb : ∀ k0_t1 : Fin k0_t1_loop.trips, ∀ (r : Fin 2), ∀ a, (k0_off112 k0_t1 (BitVec.ofNat 32 (2 + r.val))) a + S1x64.size a ≤ S320x64.size a
  k0_off114_inb : ∀ k0_t1 : Fin k0_t1_loop.trips, ∀ (r : Fin 2), ∀ a, (k0_off114 k0_t1 (BitVec.ofNat 32 (3 + r.val))) a + S1x64.size a ≤ S320x64.size a
  k0_off116_inb : ∀ k0_t1 : Fin k0_t1_loop.trips, ∀ a, (k0_off116 k0_t1) a + S1x64.size a ≤ S320x64.size a
  k0_off117_inb : ∀ k0_t1 : Fin k0_t1_loop.trips, ∀ a, (k0_off117 k0_t1) a + S1x64.size a ≤ S64x64.size a
  k0_off119_inb : ∀ k0_t1 : Fin k0_t1_loop.trips, ∀ a, (k0_off119 k0_t1) a + S1x64.size a ≤ S64x64.size a
  k0_off120_inb : ∀ k0_t1 : Fin k0_t1_loop.trips, ∀ a, (k0_off120 k0_t1) a + S1x64.size a ≤ S320x64.size a
  k0_off122_inb : ∀ k0_t1 : Fin k0_t1_loop.trips, ∀ (r : Fin 2), ∀ a, (k0_off122 k0_t1 (BitVec.ofNat 32 r.val)) a + S1x64.size a ≤ S320x64.size a
  k0_off124_inb : ∀ k0_t1 : Fin k0_t1_loop.trips, ∀ (r : Fin 2), ∀ a, (k0_off124 k0_t1 (BitVec.ofNat 32 (1 + r.val))) a + S1x64.size a ≤ S320x64.size a
  k0_off126_inb : ∀ k0_t1 : Fin k0_t1_loop.trips, ∀ (r : Fin 2), ∀ a, (k0_off126 k0_t1 (BitVec.ofNat 32 (2 + r.val))) a + S1x64.size a ≤ S320x64.size a
  k0_off128_inb : ∀ k0_t1 : Fin k0_t1_loop.trips, ∀ (r : Fin 2), ∀ a, (k0_off128 k0_t1 (BitVec.ofNat 32 (3 + r.val))) a + S1x64.size a ≤ S320x64.size a
  k0_off130_inb : ∀ k0_t1 : Fin k0_t1_loop.trips, ∀ a, (k0_off130 k0_t1) a + S1x64.size a ≤ S320x64.size a
  k0_off131_inb : ∀ k0_t1 : Fin k0_t1_loop.trips, ∀ a, (k0_off131 k0_t1) a + S1x64.size a ≤ S64x64.size a
  k0_off133_inb : ∀ k0_t1 : Fin k0_t1_loop.trips, ∀ a, (k0_off133 k0_t1) a + S1x64.size a ≤ S64x64.size a
  k0_off134_inb : ∀ k0_t1 : Fin k0_t1_loop.trips, ∀ a, (k0_off134 k0_t1) a + S1x64.size a ≤ S320x64.size a
  k0_off136_inb : ∀ k0_t1 : Fin k0_t1_loop.trips, ∀ (r : Fin 2), ∀ a, (k0_off136 k0_t1 (BitVec.ofNat 32 r.val)) a + S1x64.size a ≤ S320x64.size a
  k0_off138_inb : ∀ k0_t1 : Fin k0_t1_loop.trips, ∀ (r : Fin 2), ∀ a, (k0_off138 k0_t1 (BitVec.ofNat 32 (1 + r.val))) a + S1x64.size a ≤ S320x64.size a
  k0_off140_inb : ∀ k0_t1 : Fin k0_t1_loop.trips, ∀ (r : Fin 2), ∀ a, (k0_off140 k0_t1 (BitVec.ofNat 32 (2 + r.val))) a + S1x64.size a ≤ S320x64.size a
  k0_off142_inb : ∀ k0_t1 : Fin k0_t1_loop.trips, ∀ (r : Fin 2), ∀ a, (k0_off142 k0_t1 (BitVec.ofNat 32 (3 + r.val))) a + S1x64.size a ≤ S320x64.size a
  k0_off144_inb : ∀ k0_t1 : Fin k0_t1_loop.trips, ∀ a, (k0_off144 k0_t1) a + S1x64.size a ≤ S320x64.size a
  k0_off145_inb : ∀ k0_t1 : Fin k0_t1_loop.trips, ∀ a, (k0_off145 k0_t1) a + S1x64.size a ≤ S64x64.size a
  k0_off147_inb : ∀ k0_t1 : Fin k0_t1_loop.trips, ∀ a, (k0_off147 k0_t1) a + S1x64.size a ≤ S64x64.size a
  k0_off148_inb : ∀ k0_t1 : Fin k0_t1_loop.trips, ∀ a, (k0_off148 k0_t1) a + S1x64.size a ≤ S320x64.size a
  k0_off150_inb : ∀ k0_t1 : Fin k0_t1_loop.trips, ∀ (r : Fin 2), ∀ a, (k0_off150 k0_t1 (BitVec.ofNat 32 r.val)) a + S1x64.size a ≤ S320x64.size a
  k0_off152_inb : ∀ k0_t1 : Fin k0_t1_loop.trips, ∀ (r : Fin 2), ∀ a, (k0_off152 k0_t1 (BitVec.ofNat 32 (1 + r.val))) a + S1x64.size a ≤ S320x64.size a
  k0_off154_inb : ∀ k0_t1 : Fin k0_t1_loop.trips, ∀ (r : Fin 2), ∀ a, (k0_off154 k0_t1 (BitVec.ofNat 32 (2 + r.val))) a + S1x64.size a ≤ S320x64.size a
  k0_off156_inb : ∀ k0_t1 : Fin k0_t1_loop.trips, ∀ (r : Fin 2), ∀ a, (k0_off156 k0_t1 (BitVec.ofNat 32 (3 + r.val))) a + S1x64.size a ≤ S320x64.size a
  k0_off158_inb : ∀ k0_t1 : Fin k0_t1_loop.trips, ∀ a, (k0_off158 k0_t1) a + S1x64.size a ≤ S320x64.size a
  k0_off159_inb : ∀ k0_t1 : Fin k0_t1_loop.trips, ∀ a, (k0_off159 k0_t1) a + S1x64.size a ≤ S64x64.size a
  k0_off161_inb : ∀ k0_t1 : Fin k0_t1_loop.trips, ∀ a, (k0_off161 k0_t1) a + S1x64.size a ≤ S64x64.size a
  k0_off162_inb : ∀ k0_t1 : Fin k0_t1_loop.trips, ∀ a, (k0_off162 k0_t1) a + S1x64.size a ≤ S320x64.size a
  k0_off164_inb : ∀ k0_t1 : Fin k0_t1_loop.trips, ∀ (r : Fin 2), ∀ a, (k0_off164 k0_t1 (BitVec.ofNat 32 r.val)) a + S1x64.size a ≤ S320x64.size a
  k0_off166_inb : ∀ k0_t1 : Fin k0_t1_loop.trips, ∀ (r : Fin 2), ∀ a, (k0_off166 k0_t1 (BitVec.ofNat 32 (1 + r.val))) a + S1x64.size a ≤ S320x64.size a
  k0_off168_inb : ∀ k0_t1 : Fin k0_t1_loop.trips, ∀ (r : Fin 2), ∀ a, (k0_off168 k0_t1 (BitVec.ofNat 32 (2 + r.val))) a + S1x64.size a ≤ S320x64.size a
  k0_off170_inb : ∀ k0_t1 : Fin k0_t1_loop.trips, ∀ (r : Fin 2), ∀ a, (k0_off170 k0_t1 (BitVec.ofNat 32 (3 + r.val))) a + S1x64.size a ≤ S320x64.size a
  k0_off172_inb : ∀ k0_t1 : Fin k0_t1_loop.trips, ∀ a, (k0_off172 k0_t1) a + S1x64.size a ≤ S320x64.size a
  k0_off173_inb : ∀ k0_t1 : Fin k0_t1_loop.trips, ∀ a, (k0_off173 k0_t1) a + S1x64.size a ≤ S64x64.size a
  k0_off175_inb : ∀ k0_t1 : Fin k0_t1_loop.trips, ∀ a, (k0_off175 k0_t1) a + S1x64.size a ≤ S64x64.size a
  k0_off176_inb : ∀ k0_t1 : Fin k0_t1_loop.trips, ∀ a, (k0_off176 k0_t1) a + S1x64.size a ≤ S320x64.size a
  k0_off178_inb : ∀ k0_t1 : Fin k0_t1_loop.trips, ∀ (r : Fin 2), ∀ a, (k0_off178 k0_t1 (BitVec.ofNat 32 r.val)) a + S1x64.size a ≤ S320x64.size a
  k0_off180_inb : ∀ k0_t1 : Fin k0_t1_loop.trips, ∀ (r : Fin 2), ∀ a, (k0_off180 k0_t1 (BitVec.ofNat 32 (1 + r.val))) a + S1x64.size a ≤ S320x64.size a
  k0_off182_inb : ∀ k0_t1 : Fin k0_t1_loop.trips, ∀ (r : Fin 2), ∀ a, (k0_off182 k0_t1 (BitVec.ofNat 32 (2 + r.val))) a + S1x64.size a ≤ S320x64.size a
  k0_off184_inb : ∀ k0_t1 : Fin k0_t1_loop.trips, ∀ (r : Fin 2), ∀ a, (k0_off184 k0_t1 (BitVec.ofNat 32 (3 + r.val))) a + S1x64.size a ≤ S320x64.size a
  k0_off186_inb : ∀ k0_t1 : Fin k0_t1_loop.trips, ∀ a, (k0_off186 k0_t1) a + S1x64.size a ≤ S320x64.size a
  k0_off187_inb : ∀ k0_t1 : Fin k0_t1_loop.trips, ∀ a, (k0_off187 k0_t1) a + S1x64.size a ≤ S64x64.size a
  k0_off189_inb : ∀ k0_t1 : Fin k0_t1_loop.trips, ∀ a, (k0_off189 k0_t1) a + S1x64.size a ≤ S64x64.size a
  k0_off190_inb : ∀ k0_t1 : Fin k0_t1_loop.trips, ∀ a, (k0_off190 k0_t1) a + S1x64.size a ≤ S320x64.size a
  k0_off192_inb : ∀ k0_t1 : Fin k0_t1_loop.trips, ∀ (r : Fin 2), ∀ a, (k0_off192 k0_t1 (BitVec.ofNat 32 r.val)) a + S1x64.size a ≤ S320x64.size a
  k0_off194_inb : ∀ k0_t1 : Fin k0_t1_loop.trips, ∀ (r : Fin 2), ∀ a, (k0_off194 k0_t1 (BitVec.ofNat 32 (1 + r.val))) a + S1x64.size a ≤ S320x64.size a
  k0_off196_inb : ∀ k0_t1 : Fin k0_t1_loop.trips, ∀ (r : Fin 2), ∀ a, (k0_off196 k0_t1 (BitVec.ofNat 32 (2 + r.val))) a + S1x64.size a ≤ S320x64.size a
  k0_off198_inb : ∀ k0_t1 : Fin k0_t1_loop.trips, ∀ (r : Fin 2), ∀ a, (k0_off198 k0_t1 (BitVec.ofNat 32 (3 + r.val))) a + S1x64.size a ≤ S320x64.size a
  k0_off200_inb : ∀ k0_t1 : Fin k0_t1_loop.trips, ∀ a, (k0_off200 k0_t1) a + S1x64.size a ≤ S320x64.size a
  k0_off201_inb : ∀ k0_t1 : Fin k0_t1_loop.trips, ∀ a, (k0_off201 k0_t1) a + S1x64.size a ≤ S64x64.size a
  k0_off203_inb : ∀ k0_t1 : Fin k0_t1_loop.trips, ∀ a, (k0_off203 k0_t1) a + S1x64.size a ≤ S64x64.size a
  k0_off204_inb : ∀ k0_t1 : Fin k0_t1_loop.trips, ∀ a, (k0_off204 k0_t1) a + S1x64.size a ≤ S320x64.size a
  k0_off206_inb : ∀ k0_t1 : Fin k0_t1_loop.trips, ∀ (r : Fin 2), ∀ a, (k0_off206 k0_t1 (BitVec.ofNat 32 r.val)) a + S1x64.size a ≤ S320x64.size a
  k0_off208_inb : ∀ k0_t1 : Fin k0_t1_loop.trips, ∀ (r : Fin 2), ∀ a, (k0_off208 k0_t1 (BitVec.ofNat 32 (1 + r.val))) a + S1x64.size a ≤ S320x64.size a
  k0_off210_inb : ∀ k0_t1 : Fin k0_t1_loop.trips, ∀ (r : Fin 2), ∀ a, (k0_off210 k0_t1 (BitVec.ofNat 32 (2 + r.val))) a + S1x64.size a ≤ S320x64.size a
  k0_off212_inb : ∀ k0_t1 : Fin k0_t1_loop.trips, ∀ (r : Fin 2), ∀ a, (k0_off212 k0_t1 (BitVec.ofNat 32 (3 + r.val))) a + S1x64.size a ≤ S320x64.size a
  k0_off214_inb : ∀ k0_t1 : Fin k0_t1_loop.trips, ∀ a, (k0_off214 k0_t1) a + S1x64.size a ≤ S320x64.size a
  k0_off215_inb : ∀ k0_t1 : Fin k0_t1_loop.trips, ∀ a, (k0_off215 k0_t1) a + S1x64.size a ≤ S64x64.size a
  k0_off217_inb : ∀ k0_t1 : Fin k0_t1_loop.trips, ∀ a, (k0_off217 k0_t1) a + S1x64.size a ≤ S64x64.size a
  k0_off218_inb : ∀ k0_t1 : Fin k0_t1_loop.trips, ∀ a, (k0_off218 k0_t1) a + S1x64.size a ≤ S320x64.size a
  k0_off220_inb : ∀ k0_t1 : Fin k0_t1_loop.trips, ∀ (r : Fin 2), ∀ a, (k0_off220 k0_t1 (BitVec.ofNat 32 r.val)) a + S1x64.size a ≤ S320x64.size a
  k0_off222_inb : ∀ k0_t1 : Fin k0_t1_loop.trips, ∀ (r : Fin 2), ∀ a, (k0_off222 k0_t1 (BitVec.ofNat 32 (1 + r.val))) a + S1x64.size a ≤ S320x64.size a
  k0_off224_inb : ∀ k0_t1 : Fin k0_t1_loop.trips, ∀ (r : Fin 2), ∀ a, (k0_off224 k0_t1 (BitVec.ofNat 32 (2 + r.val))) a + S1x64.size a ≤ S320x64.size a
  k0_off226_inb : ∀ k0_t1 : Fin k0_t1_loop.trips, ∀ (r : Fin 2), ∀ a, (k0_off226 k0_t1 (BitVec.ofNat 32 (3 + r.val))) a + S1x64.size a ≤ S320x64.size a
  k0_off228_inb : ∀ k0_t1 : Fin k0_t1_loop.trips, ∀ a, (k0_off228 k0_t1) a + S1x64.size a ≤ S320x64.size a
  k0_t2_ok : k0_t2_loop.OK
  k0_t3_ok : k0_t3_loop.OK
  k0_off229_inb : ∀ k0_t3 : Fin k0_t3_loop.trips, ∀ a, (k0_off229 k0_t3) a + S1x16.size a ≤ S64x64.size a
  k0_off230_inb : ∀ k0_t3 : Fin k0_t3_loop.trips, ∀ a, (k0_off230 k0_t3) a + S1x16.size a ≤ S64x64.size a
  k0_off231_inb : ∀ k0_t3 : Fin k0_t3_loop.trips, ∀ a, (k0_off231 k0_t3) a + S1x16.size a ≤ S64x64.size a
  k0_off232_inb : ∀ k0_t3 : Fin k0_t3_loop.trips, ∀ a, (k0_off232 k0_t3) a + S1x16.size a ≤ S64x64.size a
  k0_off233_inb : ∀ k0_t3 : Fin k0_t3_loop.trips, ∀ (r : Fin 5), ∀ a, (k0_off233 k0_t3 (BitVec.ofNat 32 r.val)) a + S1x16.size a ≤ S320x64.size a
  k0_off234_inb : ∀ k0_t3 : Fin k0_t3_loop.trips, ∀ (r : Fin 5), ∀ a, (k0_off234 k0_t3 (BitVec.ofNat 32 r.val)) a + S1x16.size a ≤ S320x64.size a
  k0_off235_inb : ∀ k0_t3 : Fin k0_t3_loop.trips, ∀ (r : Fin 5), ∀ a, (k0_off235 k0_t3 (BitVec.ofNat 32 r.val)) a + S1x16.size a ≤ S320x64.size a
  k0_off236_inb : ∀ k0_t3 : Fin k0_t3_loop.trips, ∀ (r : Fin 5), ∀ a, (k0_off236 k0_t3 (BitVec.ofNat 32 r.val)) a + S1x16.size a ≤ S320x64.size a
  k0_off237_inb : ∀ k0_t3 : Fin k0_t3_loop.trips, ∀ (r : Fin 5), ∀ a, (k0_off237 k0_t3 (BitVec.ofNat 32 (16 * r.val))) a + S16.size a ≤ S40960.size a
  k0_off238_inb : ∀ i : grid0.Coords, ∀ (r : Fin 8), ∀ a, (k0_off238 i (BitVec.ofNat 32 (64 * r.val))) a + S64x64.size a ≤ S16384x64.size a
  k0_t4_ok : k0_t4_loop.OK
  k0_off239_inb : ∀ k0_t4 : Fin k0_t4_loop.trips, ∀ a, (k0_off239 k0_t4) a + S16.size a ≤ S512.size a
  k0_off240_inb : ∀ k0_t4 : Fin k0_t4_loop.trips, ∀ (r : Fin 5), ∀ a, (k0_off240 k0_t4 (BitVec.ofNat 32 (16 * r.val))) a + S16.size a ≤ S2560.size a
  k0_off241_inb : ∀ k0_t4 : Fin k0_t4_loop.trips, ∀ a, (k0_off241 k0_t4) a + S1x64.size a ≤ S64x64.size a
  k0_off243_inb : ∀ k0_t4 : Fin k0_t4_loop.trips, ∀ a, (k0_off243 k0_t4) a + S1x64.size a ≤ S64x64.size a
  k0_off244_inb : ∀ k0_t4 : Fin k0_t4_loop.trips, ∀ a, (k0_off244 k0_t4) a + S1x64.size a ≤ S320x64.size a
  k0_off246_inb : ∀ k0_t4 : Fin k0_t4_loop.trips, ∀ (r : Fin 2), ∀ a, (k0_off246 k0_t4 (BitVec.ofNat 32 r.val)) a + S1x64.size a ≤ S320x64.size a
  k0_off248_inb : ∀ k0_t4 : Fin k0_t4_loop.trips, ∀ (r : Fin 2), ∀ a, (k0_off248 k0_t4 (BitVec.ofNat 32 (1 + r.val))) a + S1x64.size a ≤ S320x64.size a
  k0_off250_inb : ∀ k0_t4 : Fin k0_t4_loop.trips, ∀ (r : Fin 2), ∀ a, (k0_off250 k0_t4 (BitVec.ofNat 32 (2 + r.val))) a + S1x64.size a ≤ S320x64.size a
  k0_off252_inb : ∀ k0_t4 : Fin k0_t4_loop.trips, ∀ (r : Fin 2), ∀ a, (k0_off252 k0_t4 (BitVec.ofNat 32 (3 + r.val))) a + S1x64.size a ≤ S320x64.size a
  k0_off254_inb : ∀ k0_t4 : Fin k0_t4_loop.trips, ∀ a, (k0_off254 k0_t4) a + S1x64.size a ≤ S320x64.size a
  k0_off255_inb : ∀ k0_t4 : Fin k0_t4_loop.trips, ∀ a, (k0_off255 k0_t4) a + S1x64.size a ≤ S64x64.size a
  k0_off257_inb : ∀ k0_t4 : Fin k0_t4_loop.trips, ∀ a, (k0_off257 k0_t4) a + S1x64.size a ≤ S64x64.size a
  k0_off258_inb : ∀ k0_t4 : Fin k0_t4_loop.trips, ∀ a, (k0_off258 k0_t4) a + S1x64.size a ≤ S320x64.size a
  k0_off260_inb : ∀ k0_t4 : Fin k0_t4_loop.trips, ∀ (r : Fin 2), ∀ a, (k0_off260 k0_t4 (BitVec.ofNat 32 r.val)) a + S1x64.size a ≤ S320x64.size a
  k0_off262_inb : ∀ k0_t4 : Fin k0_t4_loop.trips, ∀ (r : Fin 2), ∀ a, (k0_off262 k0_t4 (BitVec.ofNat 32 (1 + r.val))) a + S1x64.size a ≤ S320x64.size a
  k0_off264_inb : ∀ k0_t4 : Fin k0_t4_loop.trips, ∀ (r : Fin 2), ∀ a, (k0_off264 k0_t4 (BitVec.ofNat 32 (2 + r.val))) a + S1x64.size a ≤ S320x64.size a
  k0_off266_inb : ∀ k0_t4 : Fin k0_t4_loop.trips, ∀ (r : Fin 2), ∀ a, (k0_off266 k0_t4 (BitVec.ofNat 32 (3 + r.val))) a + S1x64.size a ≤ S320x64.size a
  k0_off268_inb : ∀ k0_t4 : Fin k0_t4_loop.trips, ∀ a, (k0_off268 k0_t4) a + S1x64.size a ≤ S320x64.size a
  k0_off269_inb : ∀ k0_t4 : Fin k0_t4_loop.trips, ∀ a, (k0_off269 k0_t4) a + S1x64.size a ≤ S64x64.size a
  k0_off271_inb : ∀ k0_t4 : Fin k0_t4_loop.trips, ∀ a, (k0_off271 k0_t4) a + S1x64.size a ≤ S64x64.size a
  k0_off272_inb : ∀ k0_t4 : Fin k0_t4_loop.trips, ∀ a, (k0_off272 k0_t4) a + S1x64.size a ≤ S320x64.size a
  k0_off274_inb : ∀ k0_t4 : Fin k0_t4_loop.trips, ∀ (r : Fin 2), ∀ a, (k0_off274 k0_t4 (BitVec.ofNat 32 r.val)) a + S1x64.size a ≤ S320x64.size a
  k0_off276_inb : ∀ k0_t4 : Fin k0_t4_loop.trips, ∀ (r : Fin 2), ∀ a, (k0_off276 k0_t4 (BitVec.ofNat 32 (1 + r.val))) a + S1x64.size a ≤ S320x64.size a
  k0_off278_inb : ∀ k0_t4 : Fin k0_t4_loop.trips, ∀ (r : Fin 2), ∀ a, (k0_off278 k0_t4 (BitVec.ofNat 32 (2 + r.val))) a + S1x64.size a ≤ S320x64.size a
  k0_off280_inb : ∀ k0_t4 : Fin k0_t4_loop.trips, ∀ (r : Fin 2), ∀ a, (k0_off280 k0_t4 (BitVec.ofNat 32 (3 + r.val))) a + S1x64.size a ≤ S320x64.size a
  k0_off282_inb : ∀ k0_t4 : Fin k0_t4_loop.trips, ∀ a, (k0_off282 k0_t4) a + S1x64.size a ≤ S320x64.size a
  k0_off283_inb : ∀ k0_t4 : Fin k0_t4_loop.trips, ∀ a, (k0_off283 k0_t4) a + S1x64.size a ≤ S64x64.size a
  k0_off285_inb : ∀ k0_t4 : Fin k0_t4_loop.trips, ∀ a, (k0_off285 k0_t4) a + S1x64.size a ≤ S64x64.size a
  k0_off286_inb : ∀ k0_t4 : Fin k0_t4_loop.trips, ∀ a, (k0_off286 k0_t4) a + S1x64.size a ≤ S320x64.size a
  k0_off288_inb : ∀ k0_t4 : Fin k0_t4_loop.trips, ∀ (r : Fin 2), ∀ a, (k0_off288 k0_t4 (BitVec.ofNat 32 r.val)) a + S1x64.size a ≤ S320x64.size a
  k0_off290_inb : ∀ k0_t4 : Fin k0_t4_loop.trips, ∀ (r : Fin 2), ∀ a, (k0_off290 k0_t4 (BitVec.ofNat 32 (1 + r.val))) a + S1x64.size a ≤ S320x64.size a
  k0_off292_inb : ∀ k0_t4 : Fin k0_t4_loop.trips, ∀ (r : Fin 2), ∀ a, (k0_off292 k0_t4 (BitVec.ofNat 32 (2 + r.val))) a + S1x64.size a ≤ S320x64.size a
  k0_off294_inb : ∀ k0_t4 : Fin k0_t4_loop.trips, ∀ (r : Fin 2), ∀ a, (k0_off294 k0_t4 (BitVec.ofNat 32 (3 + r.val))) a + S1x64.size a ≤ S320x64.size a
  k0_off296_inb : ∀ k0_t4 : Fin k0_t4_loop.trips, ∀ a, (k0_off296 k0_t4) a + S1x64.size a ≤ S320x64.size a
  k0_off297_inb : ∀ k0_t4 : Fin k0_t4_loop.trips, ∀ a, (k0_off297 k0_t4) a + S1x64.size a ≤ S64x64.size a
  k0_off299_inb : ∀ k0_t4 : Fin k0_t4_loop.trips, ∀ a, (k0_off299 k0_t4) a + S1x64.size a ≤ S64x64.size a
  k0_off300_inb : ∀ k0_t4 : Fin k0_t4_loop.trips, ∀ a, (k0_off300 k0_t4) a + S1x64.size a ≤ S320x64.size a
  k0_off302_inb : ∀ k0_t4 : Fin k0_t4_loop.trips, ∀ (r : Fin 2), ∀ a, (k0_off302 k0_t4 (BitVec.ofNat 32 r.val)) a + S1x64.size a ≤ S320x64.size a
  k0_off304_inb : ∀ k0_t4 : Fin k0_t4_loop.trips, ∀ (r : Fin 2), ∀ a, (k0_off304 k0_t4 (BitVec.ofNat 32 (1 + r.val))) a + S1x64.size a ≤ S320x64.size a
  k0_off306_inb : ∀ k0_t4 : Fin k0_t4_loop.trips, ∀ (r : Fin 2), ∀ a, (k0_off306 k0_t4 (BitVec.ofNat 32 (2 + r.val))) a + S1x64.size a ≤ S320x64.size a
  k0_off308_inb : ∀ k0_t4 : Fin k0_t4_loop.trips, ∀ (r : Fin 2), ∀ a, (k0_off308 k0_t4 (BitVec.ofNat 32 (3 + r.val))) a + S1x64.size a ≤ S320x64.size a
  k0_off310_inb : ∀ k0_t4 : Fin k0_t4_loop.trips, ∀ a, (k0_off310 k0_t4) a + S1x64.size a ≤ S320x64.size a
  k0_off311_inb : ∀ k0_t4 : Fin k0_t4_loop.trips, ∀ a, (k0_off311 k0_t4) a + S1x64.size a ≤ S64x64.size a
  k0_off313_inb : ∀ k0_t4 : Fin k0_t4_loop.trips, ∀ a, (k0_off313 k0_t4) a + S1x64.size a ≤ S64x64.size a
  k0_off314_inb : ∀ k0_t4 : Fin k0_t4_loop.trips, ∀ a, (k0_off314 k0_t4) a + S1x64.size a ≤ S320x64.size a
  k0_off316_inb : ∀ k0_t4 : Fin k0_t4_loop.trips, ∀ (r : Fin 2), ∀ a, (k0_off316 k0_t4 (BitVec.ofNat 32 r.val)) a + S1x64.size a ≤ S320x64.size a
  k0_off318_inb : ∀ k0_t4 : Fin k0_t4_loop.trips, ∀ (r : Fin 2), ∀ a, (k0_off318 k0_t4 (BitVec.ofNat 32 (1 + r.val))) a + S1x64.size a ≤ S320x64.size a
  k0_off320_inb : ∀ k0_t4 : Fin k0_t4_loop.trips, ∀ (r : Fin 2), ∀ a, (k0_off320 k0_t4 (BitVec.ofNat 32 (2 + r.val))) a + S1x64.size a ≤ S320x64.size a
  k0_off322_inb : ∀ k0_t4 : Fin k0_t4_loop.trips, ∀ (r : Fin 2), ∀ a, (k0_off322 k0_t4 (BitVec.ofNat 32 (3 + r.val))) a + S1x64.size a ≤ S320x64.size a
  k0_off324_inb : ∀ k0_t4 : Fin k0_t4_loop.trips, ∀ a, (k0_off324 k0_t4) a + S1x64.size a ≤ S320x64.size a
  k0_off325_inb : ∀ k0_t4 : Fin k0_t4_loop.trips, ∀ a, (k0_off325 k0_t4) a + S1x64.size a ≤ S64x64.size a
  k0_off327_inb : ∀ k0_t4 : Fin k0_t4_loop.trips, ∀ a, (k0_off327 k0_t4) a + S1x64.size a ≤ S64x64.size a
  k0_off328_inb : ∀ k0_t4 : Fin k0_t4_loop.trips, ∀ a, (k0_off328 k0_t4) a + S1x64.size a ≤ S320x64.size a
  k0_off330_inb : ∀ k0_t4 : Fin k0_t4_loop.trips, ∀ (r : Fin 2), ∀ a, (k0_off330 k0_t4 (BitVec.ofNat 32 r.val)) a + S1x64.size a ≤ S320x64.size a
  k0_off332_inb : ∀ k0_t4 : Fin k0_t4_loop.trips, ∀ (r : Fin 2), ∀ a, (k0_off332 k0_t4 (BitVec.ofNat 32 (1 + r.val))) a + S1x64.size a ≤ S320x64.size a
  k0_off334_inb : ∀ k0_t4 : Fin k0_t4_loop.trips, ∀ (r : Fin 2), ∀ a, (k0_off334 k0_t4 (BitVec.ofNat 32 (2 + r.val))) a + S1x64.size a ≤ S320x64.size a
  k0_off336_inb : ∀ k0_t4 : Fin k0_t4_loop.trips, ∀ (r : Fin 2), ∀ a, (k0_off336 k0_t4 (BitVec.ofNat 32 (3 + r.val))) a + S1x64.size a ≤ S320x64.size a
  k0_off338_inb : ∀ k0_t4 : Fin k0_t4_loop.trips, ∀ a, (k0_off338 k0_t4) a + S1x64.size a ≤ S320x64.size a
  k0_off339_inb : ∀ k0_t4 : Fin k0_t4_loop.trips, ∀ a, (k0_off339 k0_t4) a + S1x64.size a ≤ S64x64.size a
  k0_off341_inb : ∀ k0_t4 : Fin k0_t4_loop.trips, ∀ a, (k0_off341 k0_t4) a + S1x64.size a ≤ S64x64.size a
  k0_off342_inb : ∀ k0_t4 : Fin k0_t4_loop.trips, ∀ a, (k0_off342 k0_t4) a + S1x64.size a ≤ S320x64.size a
  k0_off344_inb : ∀ k0_t4 : Fin k0_t4_loop.trips, ∀ (r : Fin 2), ∀ a, (k0_off344 k0_t4 (BitVec.ofNat 32 r.val)) a + S1x64.size a ≤ S320x64.size a
  k0_off346_inb : ∀ k0_t4 : Fin k0_t4_loop.trips, ∀ (r : Fin 2), ∀ a, (k0_off346 k0_t4 (BitVec.ofNat 32 (1 + r.val))) a + S1x64.size a ≤ S320x64.size a
  k0_off348_inb : ∀ k0_t4 : Fin k0_t4_loop.trips, ∀ (r : Fin 2), ∀ a, (k0_off348 k0_t4 (BitVec.ofNat 32 (2 + r.val))) a + S1x64.size a ≤ S320x64.size a
  k0_off350_inb : ∀ k0_t4 : Fin k0_t4_loop.trips, ∀ (r : Fin 2), ∀ a, (k0_off350 k0_t4 (BitVec.ofNat 32 (3 + r.val))) a + S1x64.size a ≤ S320x64.size a
  k0_off352_inb : ∀ k0_t4 : Fin k0_t4_loop.trips, ∀ a, (k0_off352 k0_t4) a + S1x64.size a ≤ S320x64.size a
  k0_off353_inb : ∀ k0_t4 : Fin k0_t4_loop.trips, ∀ a, (k0_off353 k0_t4) a + S1x64.size a ≤ S64x64.size a
  k0_off355_inb : ∀ k0_t4 : Fin k0_t4_loop.trips, ∀ a, (k0_off355 k0_t4) a + S1x64.size a ≤ S64x64.size a
  k0_off356_inb : ∀ k0_t4 : Fin k0_t4_loop.trips, ∀ a, (k0_off356 k0_t4) a + S1x64.size a ≤ S320x64.size a
  k0_off358_inb : ∀ k0_t4 : Fin k0_t4_loop.trips, ∀ (r : Fin 2), ∀ a, (k0_off358 k0_t4 (BitVec.ofNat 32 r.val)) a + S1x64.size a ≤ S320x64.size a
  k0_off360_inb : ∀ k0_t4 : Fin k0_t4_loop.trips, ∀ (r : Fin 2), ∀ a, (k0_off360 k0_t4 (BitVec.ofNat 32 (1 + r.val))) a + S1x64.size a ≤ S320x64.size a
  k0_off362_inb : ∀ k0_t4 : Fin k0_t4_loop.trips, ∀ (r : Fin 2), ∀ a, (k0_off362 k0_t4 (BitVec.ofNat 32 (2 + r.val))) a + S1x64.size a ≤ S320x64.size a
  k0_off364_inb : ∀ k0_t4 : Fin k0_t4_loop.trips, ∀ (r : Fin 2), ∀ a, (k0_off364 k0_t4 (BitVec.ofNat 32 (3 + r.val))) a + S1x64.size a ≤ S320x64.size a
  k0_off366_inb : ∀ k0_t4 : Fin k0_t4_loop.trips, ∀ a, (k0_off366 k0_t4) a + S1x64.size a ≤ S320x64.size a
  k0_off367_inb : ∀ k0_t4 : Fin k0_t4_loop.trips, ∀ a, (k0_off367 k0_t4) a + S1x64.size a ≤ S64x64.size a
  k0_off369_inb : ∀ k0_t4 : Fin k0_t4_loop.trips, ∀ a, (k0_off369 k0_t4) a + S1x64.size a ≤ S64x64.size a
  k0_off370_inb : ∀ k0_t4 : Fin k0_t4_loop.trips, ∀ a, (k0_off370 k0_t4) a + S1x64.size a ≤ S320x64.size a
  k0_off372_inb : ∀ k0_t4 : Fin k0_t4_loop.trips, ∀ (r : Fin 2), ∀ a, (k0_off372 k0_t4 (BitVec.ofNat 32 r.val)) a + S1x64.size a ≤ S320x64.size a
  k0_off374_inb : ∀ k0_t4 : Fin k0_t4_loop.trips, ∀ (r : Fin 2), ∀ a, (k0_off374 k0_t4 (BitVec.ofNat 32 (1 + r.val))) a + S1x64.size a ≤ S320x64.size a
  k0_off376_inb : ∀ k0_t4 : Fin k0_t4_loop.trips, ∀ (r : Fin 2), ∀ a, (k0_off376 k0_t4 (BitVec.ofNat 32 (2 + r.val))) a + S1x64.size a ≤ S320x64.size a
  k0_off378_inb : ∀ k0_t4 : Fin k0_t4_loop.trips, ∀ (r : Fin 2), ∀ a, (k0_off378 k0_t4 (BitVec.ofNat 32 (3 + r.val))) a + S1x64.size a ≤ S320x64.size a
  k0_off380_inb : ∀ k0_t4 : Fin k0_t4_loop.trips, ∀ a, (k0_off380 k0_t4) a + S1x64.size a ≤ S320x64.size a
  k0_off381_inb : ∀ k0_t4 : Fin k0_t4_loop.trips, ∀ a, (k0_off381 k0_t4) a + S1x64.size a ≤ S64x64.size a
  k0_off383_inb : ∀ k0_t4 : Fin k0_t4_loop.trips, ∀ a, (k0_off383 k0_t4) a + S1x64.size a ≤ S64x64.size a
  k0_off384_inb : ∀ k0_t4 : Fin k0_t4_loop.trips, ∀ a, (k0_off384 k0_t4) a + S1x64.size a ≤ S320x64.size a
  k0_off386_inb : ∀ k0_t4 : Fin k0_t4_loop.trips, ∀ (r : Fin 2), ∀ a, (k0_off386 k0_t4 (BitVec.ofNat 32 r.val)) a + S1x64.size a ≤ S320x64.size a
  k0_off388_inb : ∀ k0_t4 : Fin k0_t4_loop.trips, ∀ (r : Fin 2), ∀ a, (k0_off388 k0_t4 (BitVec.ofNat 32 (1 + r.val))) a + S1x64.size a ≤ S320x64.size a
  k0_off390_inb : ∀ k0_t4 : Fin k0_t4_loop.trips, ∀ (r : Fin 2), ∀ a, (k0_off390 k0_t4 (BitVec.ofNat 32 (2 + r.val))) a + S1x64.size a ≤ S320x64.size a
  k0_off392_inb : ∀ k0_t4 : Fin k0_t4_loop.trips, ∀ (r : Fin 2), ∀ a, (k0_off392 k0_t4 (BitVec.ofNat 32 (3 + r.val))) a + S1x64.size a ≤ S320x64.size a
  k0_off394_inb : ∀ k0_t4 : Fin k0_t4_loop.trips, ∀ a, (k0_off394 k0_t4) a + S1x64.size a ≤ S320x64.size a
  k0_off395_inb : ∀ k0_t4 : Fin k0_t4_loop.trips, ∀ a, (k0_off395 k0_t4) a + S1x64.size a ≤ S64x64.size a
  k0_off397_inb : ∀ k0_t4 : Fin k0_t4_loop.trips, ∀ a, (k0_off397 k0_t4) a + S1x64.size a ≤ S64x64.size a
  k0_off398_inb : ∀ k0_t4 : Fin k0_t4_loop.trips, ∀ a, (k0_off398 k0_t4) a + S1x64.size a ≤ S320x64.size a
  k0_off400_inb : ∀ k0_t4 : Fin k0_t4_loop.trips, ∀ (r : Fin 2), ∀ a, (k0_off400 k0_t4 (BitVec.ofNat 32 r.val)) a + S1x64.size a ≤ S320x64.size a
  k0_off402_inb : ∀ k0_t4 : Fin k0_t4_loop.trips, ∀ (r : Fin 2), ∀ a, (k0_off402 k0_t4 (BitVec.ofNat 32 (1 + r.val))) a + S1x64.size a ≤ S320x64.size a
  k0_off404_inb : ∀ k0_t4 : Fin k0_t4_loop.trips, ∀ (r : Fin 2), ∀ a, (k0_off404 k0_t4 (BitVec.ofNat 32 (2 + r.val))) a + S1x64.size a ≤ S320x64.size a
  k0_off406_inb : ∀ k0_t4 : Fin k0_t4_loop.trips, ∀ (r : Fin 2), ∀ a, (k0_off406 k0_t4 (BitVec.ofNat 32 (3 + r.val))) a + S1x64.size a ≤ S320x64.size a
  k0_off408_inb : ∀ k0_t4 : Fin k0_t4_loop.trips, ∀ a, (k0_off408 k0_t4) a + S1x64.size a ≤ S320x64.size a
  k0_off409_inb : ∀ k0_t4 : Fin k0_t4_loop.trips, ∀ a, (k0_off409 k0_t4) a + S1x64.size a ≤ S64x64.size a
  k0_off411_inb : ∀ k0_t4 : Fin k0_t4_loop.trips, ∀ a, (k0_off411 k0_t4) a + S1x64.size a ≤ S64x64.size a
  k0_off412_inb : ∀ k0_t4 : Fin k0_t4_loop.trips, ∀ a, (k0_off412 k0_t4) a + S1x64.size a ≤ S320x64.size a
  k0_off414_inb : ∀ k0_t4 : Fin k0_t4_loop.trips, ∀ (r : Fin 2), ∀ a, (k0_off414 k0_t4 (BitVec.ofNat 32 r.val)) a + S1x64.size a ≤ S320x64.size a
  k0_off416_inb : ∀ k0_t4 : Fin k0_t4_loop.trips, ∀ (r : Fin 2), ∀ a, (k0_off416 k0_t4 (BitVec.ofNat 32 (1 + r.val))) a + S1x64.size a ≤ S320x64.size a
  k0_off418_inb : ∀ k0_t4 : Fin k0_t4_loop.trips, ∀ (r : Fin 2), ∀ a, (k0_off418 k0_t4 (BitVec.ofNat 32 (2 + r.val))) a + S1x64.size a ≤ S320x64.size a
  k0_off420_inb : ∀ k0_t4 : Fin k0_t4_loop.trips, ∀ (r : Fin 2), ∀ a, (k0_off420 k0_t4 (BitVec.ofNat 32 (3 + r.val))) a + S1x64.size a ≤ S320x64.size a
  k0_off422_inb : ∀ k0_t4 : Fin k0_t4_loop.trips, ∀ a, (k0_off422 k0_t4) a + S1x64.size a ≤ S320x64.size a
  k0_off423_inb : ∀ k0_t4 : Fin k0_t4_loop.trips, ∀ a, (k0_off423 k0_t4) a + S1x64.size a ≤ S64x64.size a
  k0_off425_inb : ∀ k0_t4 : Fin k0_t4_loop.trips, ∀ a, (k0_off425 k0_t4) a + S1x64.size a ≤ S64x64.size a
  k0_off426_inb : ∀ k0_t4 : Fin k0_t4_loop.trips, ∀ a, (k0_off426 k0_t4) a + S1x64.size a ≤ S320x64.size a
  k0_off428_inb : ∀ k0_t4 : Fin k0_t4_loop.trips, ∀ (r : Fin 2), ∀ a, (k0_off428 k0_t4 (BitVec.ofNat 32 r.val)) a + S1x64.size a ≤ S320x64.size a
  k0_off430_inb : ∀ k0_t4 : Fin k0_t4_loop.trips, ∀ (r : Fin 2), ∀ a, (k0_off430 k0_t4 (BitVec.ofNat 32 (1 + r.val))) a + S1x64.size a ≤ S320x64.size a
  k0_off432_inb : ∀ k0_t4 : Fin k0_t4_loop.trips, ∀ (r : Fin 2), ∀ a, (k0_off432 k0_t4 (BitVec.ofNat 32 (2 + r.val))) a + S1x64.size a ≤ S320x64.size a
  k0_off434_inb : ∀ k0_t4 : Fin k0_t4_loop.trips, ∀ (r : Fin 2), ∀ a, (k0_off434 k0_t4 (BitVec.ofNat 32 (3 + r.val))) a + S1x64.size a ≤ S320x64.size a
  k0_off436_inb : ∀ k0_t4 : Fin k0_t4_loop.trips, ∀ a, (k0_off436 k0_t4) a + S1x64.size a ≤ S320x64.size a
  k0_off437_inb : ∀ k0_t4 : Fin k0_t4_loop.trips, ∀ a, (k0_off437 k0_t4) a + S1x64.size a ≤ S64x64.size a
  k0_off439_inb : ∀ k0_t4 : Fin k0_t4_loop.trips, ∀ a, (k0_off439 k0_t4) a + S1x64.size a ≤ S64x64.size a
  k0_off440_inb : ∀ k0_t4 : Fin k0_t4_loop.trips, ∀ a, (k0_off440 k0_t4) a + S1x64.size a ≤ S320x64.size a
  k0_off442_inb : ∀ k0_t4 : Fin k0_t4_loop.trips, ∀ (r : Fin 2), ∀ a, (k0_off442 k0_t4 (BitVec.ofNat 32 r.val)) a + S1x64.size a ≤ S320x64.size a
  k0_off444_inb : ∀ k0_t4 : Fin k0_t4_loop.trips, ∀ (r : Fin 2), ∀ a, (k0_off444 k0_t4 (BitVec.ofNat 32 (1 + r.val))) a + S1x64.size a ≤ S320x64.size a
  k0_off446_inb : ∀ k0_t4 : Fin k0_t4_loop.trips, ∀ (r : Fin 2), ∀ a, (k0_off446 k0_t4 (BitVec.ofNat 32 (2 + r.val))) a + S1x64.size a ≤ S320x64.size a
  k0_off448_inb : ∀ k0_t4 : Fin k0_t4_loop.trips, ∀ (r : Fin 2), ∀ a, (k0_off448 k0_t4 (BitVec.ofNat 32 (3 + r.val))) a + S1x64.size a ≤ S320x64.size a
  k0_off450_inb : ∀ k0_t4 : Fin k0_t4_loop.trips, ∀ a, (k0_off450 k0_t4) a + S1x64.size a ≤ S320x64.size a
  k0_off451_inb : ∀ k0_t4 : Fin k0_t4_loop.trips, ∀ a, (k0_off451 k0_t4) a + S1x64.size a ≤ S64x64.size a
  k0_off453_inb : ∀ k0_t4 : Fin k0_t4_loop.trips, ∀ a, (k0_off453 k0_t4) a + S1x64.size a ≤ S64x64.size a
  k0_off454_inb : ∀ k0_t4 : Fin k0_t4_loop.trips, ∀ a, (k0_off454 k0_t4) a + S1x64.size a ≤ S320x64.size a
  k0_off456_inb : ∀ k0_t4 : Fin k0_t4_loop.trips, ∀ (r : Fin 2), ∀ a, (k0_off456 k0_t4 (BitVec.ofNat 32 r.val)) a + S1x64.size a ≤ S320x64.size a
  k0_off458_inb : ∀ k0_t4 : Fin k0_t4_loop.trips, ∀ (r : Fin 2), ∀ a, (k0_off458 k0_t4 (BitVec.ofNat 32 (1 + r.val))) a + S1x64.size a ≤ S320x64.size a
  k0_off460_inb : ∀ k0_t4 : Fin k0_t4_loop.trips, ∀ (r : Fin 2), ∀ a, (k0_off460 k0_t4 (BitVec.ofNat 32 (2 + r.val))) a + S1x64.size a ≤ S320x64.size a
  k0_off462_inb : ∀ k0_t4 : Fin k0_t4_loop.trips, ∀ (r : Fin 2), ∀ a, (k0_off462 k0_t4 (BitVec.ofNat 32 (3 + r.val))) a + S1x64.size a ≤ S320x64.size a
  k0_off464_inb : ∀ k0_t4 : Fin k0_t4_loop.trips, ∀ a, (k0_off464 k0_t4) a + S1x64.size a ≤ S320x64.size a
  k0_t5_ok : k0_t5_loop.OK
  k0_t6_ok : k0_t6_loop.OK
  k0_off465_inb : ∀ k0_t6 : Fin k0_t6_loop.trips, ∀ a, (k0_off465 k0_t6) a + S1x16.size a ≤ S64x64.size a
  k0_off466_inb : ∀ k0_t6 : Fin k0_t6_loop.trips, ∀ a, (k0_off466 k0_t6) a + S1x16.size a ≤ S64x64.size a
  k0_off467_inb : ∀ k0_t6 : Fin k0_t6_loop.trips, ∀ a, (k0_off467 k0_t6) a + S1x16.size a ≤ S64x64.size a
  k0_off468_inb : ∀ k0_t6 : Fin k0_t6_loop.trips, ∀ a, (k0_off468 k0_t6) a + S1x16.size a ≤ S64x64.size a
  k0_off469_inb : ∀ k0_t6 : Fin k0_t6_loop.trips, ∀ (r : Fin 5), ∀ a, (k0_off469 k0_t6 (BitVec.ofNat 32 r.val)) a + S1x16.size a ≤ S320x64.size a
  k0_off470_inb : ∀ k0_t6 : Fin k0_t6_loop.trips, ∀ (r : Fin 5), ∀ a, (k0_off470 k0_t6 (BitVec.ofNat 32 r.val)) a + S1x16.size a ≤ S320x64.size a
  k0_off471_inb : ∀ k0_t6 : Fin k0_t6_loop.trips, ∀ (r : Fin 5), ∀ a, (k0_off471 k0_t6 (BitVec.ofNat 32 r.val)) a + S1x16.size a ≤ S320x64.size a
  k0_off472_inb : ∀ k0_t6 : Fin k0_t6_loop.trips, ∀ (r : Fin 5), ∀ a, (k0_off472 k0_t6 (BitVec.ofNat 32 r.val)) a + S1x16.size a ≤ S320x64.size a
  k0_off473_inb : ∀ k0_t6 : Fin k0_t6_loop.trips, ∀ (r : Fin 5), ∀ a, (k0_off473 k0_t6 (BitVec.ofNat 32 (16 * r.val))) a + S16.size a ≤ S40960.size a
  k0_t7_ok : k0_t7_loop.OK
  k0_off474_inb : ∀ k0_t7 : Fin k0_t7_loop.trips, ∀ a, (k0_off474 k0_t7) a + S16.size a ≤ S512.size a
  k0_off475_inb : ∀ k0_t7 : Fin k0_t7_loop.trips, ∀ (r : Fin 5), ∀ a, (k0_off475 k0_t7 (BitVec.ofNat 32 (16 * r.val))) a + S16.size a ≤ S2560.size a
  k0_off476_inb : ∀ k0_t7 : Fin k0_t7_loop.trips, ∀ a, (k0_off476 k0_t7) a + S1x64.size a ≤ S64x64.size a
  k0_off478_inb : ∀ k0_t7 : Fin k0_t7_loop.trips, ∀ a, (k0_off478 k0_t7) a + S1x64.size a ≤ S64x64.size a
  k0_off479_inb : ∀ k0_t7 : Fin k0_t7_loop.trips, ∀ a, (k0_off479 k0_t7) a + S1x64.size a ≤ S320x64.size a
  k0_off481_inb : ∀ k0_t7 : Fin k0_t7_loop.trips, ∀ (r : Fin 2), ∀ a, (k0_off481 k0_t7 (BitVec.ofNat 32 r.val)) a + S1x64.size a ≤ S320x64.size a
  k0_off483_inb : ∀ k0_t7 : Fin k0_t7_loop.trips, ∀ (r : Fin 2), ∀ a, (k0_off483 k0_t7 (BitVec.ofNat 32 (1 + r.val))) a + S1x64.size a ≤ S320x64.size a
  k0_off485_inb : ∀ k0_t7 : Fin k0_t7_loop.trips, ∀ (r : Fin 2), ∀ a, (k0_off485 k0_t7 (BitVec.ofNat 32 (2 + r.val))) a + S1x64.size a ≤ S320x64.size a
  k0_off487_inb : ∀ k0_t7 : Fin k0_t7_loop.trips, ∀ (r : Fin 2), ∀ a, (k0_off487 k0_t7 (BitVec.ofNat 32 (3 + r.val))) a + S1x64.size a ≤ S320x64.size a
  k0_off489_inb : ∀ k0_t7 : Fin k0_t7_loop.trips, ∀ a, (k0_off489 k0_t7) a + S1x64.size a ≤ S320x64.size a
  k0_off490_inb : ∀ k0_t7 : Fin k0_t7_loop.trips, ∀ a, (k0_off490 k0_t7) a + S1x64.size a ≤ S64x64.size a
  k0_off492_inb : ∀ k0_t7 : Fin k0_t7_loop.trips, ∀ a, (k0_off492 k0_t7) a + S1x64.size a ≤ S64x64.size a
  k0_off493_inb : ∀ k0_t7 : Fin k0_t7_loop.trips, ∀ a, (k0_off493 k0_t7) a + S1x64.size a ≤ S320x64.size a
  k0_off495_inb : ∀ k0_t7 : Fin k0_t7_loop.trips, ∀ (r : Fin 2), ∀ a, (k0_off495 k0_t7 (BitVec.ofNat 32 r.val)) a + S1x64.size a ≤ S320x64.size a
  k0_off497_inb : ∀ k0_t7 : Fin k0_t7_loop.trips, ∀ (r : Fin 2), ∀ a, (k0_off497 k0_t7 (BitVec.ofNat 32 (1 + r.val))) a + S1x64.size a ≤ S320x64.size a
  k0_off499_inb : ∀ k0_t7 : Fin k0_t7_loop.trips, ∀ (r : Fin 2), ∀ a, (k0_off499 k0_t7 (BitVec.ofNat 32 (2 + r.val))) a + S1x64.size a ≤ S320x64.size a
  k0_off501_inb : ∀ k0_t7 : Fin k0_t7_loop.trips, ∀ (r : Fin 2), ∀ a, (k0_off501 k0_t7 (BitVec.ofNat 32 (3 + r.val))) a + S1x64.size a ≤ S320x64.size a
  k0_off503_inb : ∀ k0_t7 : Fin k0_t7_loop.trips, ∀ a, (k0_off503 k0_t7) a + S1x64.size a ≤ S320x64.size a
  k0_off504_inb : ∀ k0_t7 : Fin k0_t7_loop.trips, ∀ a, (k0_off504 k0_t7) a + S1x64.size a ≤ S64x64.size a
  k0_off506_inb : ∀ k0_t7 : Fin k0_t7_loop.trips, ∀ a, (k0_off506 k0_t7) a + S1x64.size a ≤ S64x64.size a
  k0_off507_inb : ∀ k0_t7 : Fin k0_t7_loop.trips, ∀ a, (k0_off507 k0_t7) a + S1x64.size a ≤ S320x64.size a
  k0_off509_inb : ∀ k0_t7 : Fin k0_t7_loop.trips, ∀ (r : Fin 2), ∀ a, (k0_off509 k0_t7 (BitVec.ofNat 32 r.val)) a + S1x64.size a ≤ S320x64.size a
  k0_off511_inb : ∀ k0_t7 : Fin k0_t7_loop.trips, ∀ (r : Fin 2), ∀ a, (k0_off511 k0_t7 (BitVec.ofNat 32 (1 + r.val))) a + S1x64.size a ≤ S320x64.size a
  k0_off513_inb : ∀ k0_t7 : Fin k0_t7_loop.trips, ∀ (r : Fin 2), ∀ a, (k0_off513 k0_t7 (BitVec.ofNat 32 (2 + r.val))) a + S1x64.size a ≤ S320x64.size a
  k0_off515_inb : ∀ k0_t7 : Fin k0_t7_loop.trips, ∀ (r : Fin 2), ∀ a, (k0_off515 k0_t7 (BitVec.ofNat 32 (3 + r.val))) a + S1x64.size a ≤ S320x64.size a
  k0_off517_inb : ∀ k0_t7 : Fin k0_t7_loop.trips, ∀ a, (k0_off517 k0_t7) a + S1x64.size a ≤ S320x64.size a
  k0_off518_inb : ∀ k0_t7 : Fin k0_t7_loop.trips, ∀ a, (k0_off518 k0_t7) a + S1x64.size a ≤ S64x64.size a
  k0_off520_inb : ∀ k0_t7 : Fin k0_t7_loop.trips, ∀ a, (k0_off520 k0_t7) a + S1x64.size a ≤ S64x64.size a
  k0_off521_inb : ∀ k0_t7 : Fin k0_t7_loop.trips, ∀ a, (k0_off521 k0_t7) a + S1x64.size a ≤ S320x64.size a
  k0_off523_inb : ∀ k0_t7 : Fin k0_t7_loop.trips, ∀ (r : Fin 2), ∀ a, (k0_off523 k0_t7 (BitVec.ofNat 32 r.val)) a + S1x64.size a ≤ S320x64.size a
  k0_off525_inb : ∀ k0_t7 : Fin k0_t7_loop.trips, ∀ (r : Fin 2), ∀ a, (k0_off525 k0_t7 (BitVec.ofNat 32 (1 + r.val))) a + S1x64.size a ≤ S320x64.size a
  k0_off527_inb : ∀ k0_t7 : Fin k0_t7_loop.trips, ∀ (r : Fin 2), ∀ a, (k0_off527 k0_t7 (BitVec.ofNat 32 (2 + r.val))) a + S1x64.size a ≤ S320x64.size a
  k0_off529_inb : ∀ k0_t7 : Fin k0_t7_loop.trips, ∀ (r : Fin 2), ∀ a, (k0_off529 k0_t7 (BitVec.ofNat 32 (3 + r.val))) a + S1x64.size a ≤ S320x64.size a
  k0_off531_inb : ∀ k0_t7 : Fin k0_t7_loop.trips, ∀ a, (k0_off531 k0_t7) a + S1x64.size a ≤ S320x64.size a
  k0_off532_inb : ∀ k0_t7 : Fin k0_t7_loop.trips, ∀ a, (k0_off532 k0_t7) a + S1x64.size a ≤ S64x64.size a
  k0_off534_inb : ∀ k0_t7 : Fin k0_t7_loop.trips, ∀ a, (k0_off534 k0_t7) a + S1x64.size a ≤ S64x64.size a
  k0_off535_inb : ∀ k0_t7 : Fin k0_t7_loop.trips, ∀ a, (k0_off535 k0_t7) a + S1x64.size a ≤ S320x64.size a
  k0_off537_inb : ∀ k0_t7 : Fin k0_t7_loop.trips, ∀ (r : Fin 2), ∀ a, (k0_off537 k0_t7 (BitVec.ofNat 32 r.val)) a + S1x64.size a ≤ S320x64.size a
  k0_off539_inb : ∀ k0_t7 : Fin k0_t7_loop.trips, ∀ (r : Fin 2), ∀ a, (k0_off539 k0_t7 (BitVec.ofNat 32 (1 + r.val))) a + S1x64.size a ≤ S320x64.size a
  k0_off541_inb : ∀ k0_t7 : Fin k0_t7_loop.trips, ∀ (r : Fin 2), ∀ a, (k0_off541 k0_t7 (BitVec.ofNat 32 (2 + r.val))) a + S1x64.size a ≤ S320x64.size a
  k0_off543_inb : ∀ k0_t7 : Fin k0_t7_loop.trips, ∀ (r : Fin 2), ∀ a, (k0_off543 k0_t7 (BitVec.ofNat 32 (3 + r.val))) a + S1x64.size a ≤ S320x64.size a
  k0_off545_inb : ∀ k0_t7 : Fin k0_t7_loop.trips, ∀ a, (k0_off545 k0_t7) a + S1x64.size a ≤ S320x64.size a
  k0_off546_inb : ∀ k0_t7 : Fin k0_t7_loop.trips, ∀ a, (k0_off546 k0_t7) a + S1x64.size a ≤ S64x64.size a
  k0_off548_inb : ∀ k0_t7 : Fin k0_t7_loop.trips, ∀ a, (k0_off548 k0_t7) a + S1x64.size a ≤ S64x64.size a
  k0_off549_inb : ∀ k0_t7 : Fin k0_t7_loop.trips, ∀ a, (k0_off549 k0_t7) a + S1x64.size a ≤ S320x64.size a
  k0_off551_inb : ∀ k0_t7 : Fin k0_t7_loop.trips, ∀ (r : Fin 2), ∀ a, (k0_off551 k0_t7 (BitVec.ofNat 32 r.val)) a + S1x64.size a ≤ S320x64.size a
  k0_off553_inb : ∀ k0_t7 : Fin k0_t7_loop.trips, ∀ (r : Fin 2), ∀ a, (k0_off553 k0_t7 (BitVec.ofNat 32 (1 + r.val))) a + S1x64.size a ≤ S320x64.size a
  k0_off555_inb : ∀ k0_t7 : Fin k0_t7_loop.trips, ∀ (r : Fin 2), ∀ a, (k0_off555 k0_t7 (BitVec.ofNat 32 (2 + r.val))) a + S1x64.size a ≤ S320x64.size a
  k0_off557_inb : ∀ k0_t7 : Fin k0_t7_loop.trips, ∀ (r : Fin 2), ∀ a, (k0_off557 k0_t7 (BitVec.ofNat 32 (3 + r.val))) a + S1x64.size a ≤ S320x64.size a
  k0_off559_inb : ∀ k0_t7 : Fin k0_t7_loop.trips, ∀ a, (k0_off559 k0_t7) a + S1x64.size a ≤ S320x64.size a
  k0_off560_inb : ∀ k0_t7 : Fin k0_t7_loop.trips, ∀ a, (k0_off560 k0_t7) a + S1x64.size a ≤ S64x64.size a
  k0_off562_inb : ∀ k0_t7 : Fin k0_t7_loop.trips, ∀ a, (k0_off562 k0_t7) a + S1x64.size a ≤ S64x64.size a
  k0_off563_inb : ∀ k0_t7 : Fin k0_t7_loop.trips, ∀ a, (k0_off563 k0_t7) a + S1x64.size a ≤ S320x64.size a
  k0_off565_inb : ∀ k0_t7 : Fin k0_t7_loop.trips, ∀ (r : Fin 2), ∀ a, (k0_off565 k0_t7 (BitVec.ofNat 32 r.val)) a + S1x64.size a ≤ S320x64.size a
  k0_off567_inb : ∀ k0_t7 : Fin k0_t7_loop.trips, ∀ (r : Fin 2), ∀ a, (k0_off567 k0_t7 (BitVec.ofNat 32 (1 + r.val))) a + S1x64.size a ≤ S320x64.size a
  k0_off569_inb : ∀ k0_t7 : Fin k0_t7_loop.trips, ∀ (r : Fin 2), ∀ a, (k0_off569 k0_t7 (BitVec.ofNat 32 (2 + r.val))) a + S1x64.size a ≤ S320x64.size a
  k0_off571_inb : ∀ k0_t7 : Fin k0_t7_loop.trips, ∀ (r : Fin 2), ∀ a, (k0_off571 k0_t7 (BitVec.ofNat 32 (3 + r.val))) a + S1x64.size a ≤ S320x64.size a
  k0_off573_inb : ∀ k0_t7 : Fin k0_t7_loop.trips, ∀ a, (k0_off573 k0_t7) a + S1x64.size a ≤ S320x64.size a
  k0_off574_inb : ∀ k0_t7 : Fin k0_t7_loop.trips, ∀ a, (k0_off574 k0_t7) a + S1x64.size a ≤ S64x64.size a
  k0_off576_inb : ∀ k0_t7 : Fin k0_t7_loop.trips, ∀ a, (k0_off576 k0_t7) a + S1x64.size a ≤ S64x64.size a
  k0_off577_inb : ∀ k0_t7 : Fin k0_t7_loop.trips, ∀ a, (k0_off577 k0_t7) a + S1x64.size a ≤ S320x64.size a
  k0_off579_inb : ∀ k0_t7 : Fin k0_t7_loop.trips, ∀ (r : Fin 2), ∀ a, (k0_off579 k0_t7 (BitVec.ofNat 32 r.val)) a + S1x64.size a ≤ S320x64.size a
  k0_off581_inb : ∀ k0_t7 : Fin k0_t7_loop.trips, ∀ (r : Fin 2), ∀ a, (k0_off581 k0_t7 (BitVec.ofNat 32 (1 + r.val))) a + S1x64.size a ≤ S320x64.size a
  k0_off583_inb : ∀ k0_t7 : Fin k0_t7_loop.trips, ∀ (r : Fin 2), ∀ a, (k0_off583 k0_t7 (BitVec.ofNat 32 (2 + r.val))) a + S1x64.size a ≤ S320x64.size a
  k0_off585_inb : ∀ k0_t7 : Fin k0_t7_loop.trips, ∀ (r : Fin 2), ∀ a, (k0_off585 k0_t7 (BitVec.ofNat 32 (3 + r.val))) a + S1x64.size a ≤ S320x64.size a
  k0_off587_inb : ∀ k0_t7 : Fin k0_t7_loop.trips, ∀ a, (k0_off587 k0_t7) a + S1x64.size a ≤ S320x64.size a
  k0_off588_inb : ∀ k0_t7 : Fin k0_t7_loop.trips, ∀ a, (k0_off588 k0_t7) a + S1x64.size a ≤ S64x64.size a
  k0_off590_inb : ∀ k0_t7 : Fin k0_t7_loop.trips, ∀ a, (k0_off590 k0_t7) a + S1x64.size a ≤ S64x64.size a
  k0_off591_inb : ∀ k0_t7 : Fin k0_t7_loop.trips, ∀ a, (k0_off591 k0_t7) a + S1x64.size a ≤ S320x64.size a
  k0_off593_inb : ∀ k0_t7 : Fin k0_t7_loop.trips, ∀ (r : Fin 2), ∀ a, (k0_off593 k0_t7 (BitVec.ofNat 32 r.val)) a + S1x64.size a ≤ S320x64.size a
  k0_off595_inb : ∀ k0_t7 : Fin k0_t7_loop.trips, ∀ (r : Fin 2), ∀ a, (k0_off595 k0_t7 (BitVec.ofNat 32 (1 + r.val))) a + S1x64.size a ≤ S320x64.size a
  k0_off597_inb : ∀ k0_t7 : Fin k0_t7_loop.trips, ∀ (r : Fin 2), ∀ a, (k0_off597 k0_t7 (BitVec.ofNat 32 (2 + r.val))) a + S1x64.size a ≤ S320x64.size a
  k0_off599_inb : ∀ k0_t7 : Fin k0_t7_loop.trips, ∀ (r : Fin 2), ∀ a, (k0_off599 k0_t7 (BitVec.ofNat 32 (3 + r.val))) a + S1x64.size a ≤ S320x64.size a
  k0_off601_inb : ∀ k0_t7 : Fin k0_t7_loop.trips, ∀ a, (k0_off601 k0_t7) a + S1x64.size a ≤ S320x64.size a
  k0_off602_inb : ∀ k0_t7 : Fin k0_t7_loop.trips, ∀ a, (k0_off602 k0_t7) a + S1x64.size a ≤ S64x64.size a
  k0_off604_inb : ∀ k0_t7 : Fin k0_t7_loop.trips, ∀ a, (k0_off604 k0_t7) a + S1x64.size a ≤ S64x64.size a
  k0_off605_inb : ∀ k0_t7 : Fin k0_t7_loop.trips, ∀ a, (k0_off605 k0_t7) a + S1x64.size a ≤ S320x64.size a
  k0_off607_inb : ∀ k0_t7 : Fin k0_t7_loop.trips, ∀ (r : Fin 2), ∀ a, (k0_off607 k0_t7 (BitVec.ofNat 32 r.val)) a + S1x64.size a ≤ S320x64.size a
  k0_off609_inb : ∀ k0_t7 : Fin k0_t7_loop.trips, ∀ (r : Fin 2), ∀ a, (k0_off609 k0_t7 (BitVec.ofNat 32 (1 + r.val))) a + S1x64.size a ≤ S320x64.size a
  k0_off611_inb : ∀ k0_t7 : Fin k0_t7_loop.trips, ∀ (r : Fin 2), ∀ a, (k0_off611 k0_t7 (BitVec.ofNat 32 (2 + r.val))) a + S1x64.size a ≤ S320x64.size a
  k0_off613_inb : ∀ k0_t7 : Fin k0_t7_loop.trips, ∀ (r : Fin 2), ∀ a, (k0_off613 k0_t7 (BitVec.ofNat 32 (3 + r.val))) a + S1x64.size a ≤ S320x64.size a
  k0_off615_inb : ∀ k0_t7 : Fin k0_t7_loop.trips, ∀ a, (k0_off615 k0_t7) a + S1x64.size a ≤ S320x64.size a
  k0_off616_inb : ∀ k0_t7 : Fin k0_t7_loop.trips, ∀ a, (k0_off616 k0_t7) a + S1x64.size a ≤ S64x64.size a
  k0_off618_inb : ∀ k0_t7 : Fin k0_t7_loop.trips, ∀ a, (k0_off618 k0_t7) a + S1x64.size a ≤ S64x64.size a
  k0_off619_inb : ∀ k0_t7 : Fin k0_t7_loop.trips, ∀ a, (k0_off619 k0_t7) a + S1x64.size a ≤ S320x64.size a
  k0_off621_inb : ∀ k0_t7 : Fin k0_t7_loop.trips, ∀ (r : Fin 2), ∀ a, (k0_off621 k0_t7 (BitVec.ofNat 32 r.val)) a + S1x64.size a ≤ S320x64.size a
  k0_off623_inb : ∀ k0_t7 : Fin k0_t7_loop.trips, ∀ (r : Fin 2), ∀ a, (k0_off623 k0_t7 (BitVec.ofNat 32 (1 + r.val))) a + S1x64.size a ≤ S320x64.size a
  k0_off625_inb : ∀ k0_t7 : Fin k0_t7_loop.trips, ∀ (r : Fin 2), ∀ a, (k0_off625 k0_t7 (BitVec.ofNat 32 (2 + r.val))) a + S1x64.size a ≤ S320x64.size a
  k0_off627_inb : ∀ k0_t7 : Fin k0_t7_loop.trips, ∀ (r : Fin 2), ∀ a, (k0_off627 k0_t7 (BitVec.ofNat 32 (3 + r.val))) a + S1x64.size a ≤ S320x64.size a
  k0_off629_inb : ∀ k0_t7 : Fin k0_t7_loop.trips, ∀ a, (k0_off629 k0_t7) a + S1x64.size a ≤ S320x64.size a
  k0_off630_inb : ∀ k0_t7 : Fin k0_t7_loop.trips, ∀ a, (k0_off630 k0_t7) a + S1x64.size a ≤ S64x64.size a
  k0_off632_inb : ∀ k0_t7 : Fin k0_t7_loop.trips, ∀ a, (k0_off632 k0_t7) a + S1x64.size a ≤ S64x64.size a
  k0_off633_inb : ∀ k0_t7 : Fin k0_t7_loop.trips, ∀ a, (k0_off633 k0_t7) a + S1x64.size a ≤ S320x64.size a
  k0_off635_inb : ∀ k0_t7 : Fin k0_t7_loop.trips, ∀ (r : Fin 2), ∀ a, (k0_off635 k0_t7 (BitVec.ofNat 32 r.val)) a + S1x64.size a ≤ S320x64.size a
  k0_off637_inb : ∀ k0_t7 : Fin k0_t7_loop.trips, ∀ (r : Fin 2), ∀ a, (k0_off637 k0_t7 (BitVec.ofNat 32 (1 + r.val))) a + S1x64.size a ≤ S320x64.size a
  k0_off639_inb : ∀ k0_t7 : Fin k0_t7_loop.trips, ∀ (r : Fin 2), ∀ a, (k0_off639 k0_t7 (BitVec.ofNat 32 (2 + r.val))) a + S1x64.size a ≤ S320x64.size a
  k0_off641_inb : ∀ k0_t7 : Fin k0_t7_loop.trips, ∀ (r : Fin 2), ∀ a, (k0_off641 k0_t7 (BitVec.ofNat 32 (3 + r.val))) a + S1x64.size a ≤ S320x64.size a
  k0_off643_inb : ∀ k0_t7 : Fin k0_t7_loop.trips, ∀ a, (k0_off643 k0_t7) a + S1x64.size a ≤ S320x64.size a
  k0_off644_inb : ∀ k0_t7 : Fin k0_t7_loop.trips, ∀ a, (k0_off644 k0_t7) a + S1x64.size a ≤ S64x64.size a
  k0_off646_inb : ∀ k0_t7 : Fin k0_t7_loop.trips, ∀ a, (k0_off646 k0_t7) a + S1x64.size a ≤ S64x64.size a
  k0_off647_inb : ∀ k0_t7 : Fin k0_t7_loop.trips, ∀ a, (k0_off647 k0_t7) a + S1x64.size a ≤ S320x64.size a
  k0_off649_inb : ∀ k0_t7 : Fin k0_t7_loop.trips, ∀ (r : Fin 2), ∀ a, (k0_off649 k0_t7 (BitVec.ofNat 32 r.val)) a + S1x64.size a ≤ S320x64.size a
  k0_off651_inb : ∀ k0_t7 : Fin k0_t7_loop.trips, ∀ (r : Fin 2), ∀ a, (k0_off651 k0_t7 (BitVec.ofNat 32 (1 + r.val))) a + S1x64.size a ≤ S320x64.size a
  k0_off653_inb : ∀ k0_t7 : Fin k0_t7_loop.trips, ∀ (r : Fin 2), ∀ a, (k0_off653 k0_t7 (BitVec.ofNat 32 (2 + r.val))) a + S1x64.size a ≤ S320x64.size a
  k0_off655_inb : ∀ k0_t7 : Fin k0_t7_loop.trips, ∀ (r : Fin 2), ∀ a, (k0_off655 k0_t7 (BitVec.ofNat 32 (3 + r.val))) a + S1x64.size a ≤ S320x64.size a
  k0_off657_inb : ∀ k0_t7 : Fin k0_t7_loop.trips, ∀ a, (k0_off657 k0_t7) a + S1x64.size a ≤ S320x64.size a
  k0_off658_inb : ∀ k0_t7 : Fin k0_t7_loop.trips, ∀ a, (k0_off658 k0_t7) a + S1x64.size a ≤ S64x64.size a
  k0_off660_inb : ∀ k0_t7 : Fin k0_t7_loop.trips, ∀ a, (k0_off660 k0_t7) a + S1x64.size a ≤ S64x64.size a
  k0_off661_inb : ∀ k0_t7 : Fin k0_t7_loop.trips, ∀ a, (k0_off661 k0_t7) a + S1x64.size a ≤ S320x64.size a
  k0_off663_inb : ∀ k0_t7 : Fin k0_t7_loop.trips, ∀ (r : Fin 2), ∀ a, (k0_off663 k0_t7 (BitVec.ofNat 32 r.val)) a + S1x64.size a ≤ S320x64.size a
  k0_off665_inb : ∀ k0_t7 : Fin k0_t7_loop.trips, ∀ (r : Fin 2), ∀ a, (k0_off665 k0_t7 (BitVec.ofNat 32 (1 + r.val))) a + S1x64.size a ≤ S320x64.size a
  k0_off667_inb : ∀ k0_t7 : Fin k0_t7_loop.trips, ∀ (r : Fin 2), ∀ a, (k0_off667 k0_t7 (BitVec.ofNat 32 (2 + r.val))) a + S1x64.size a ≤ S320x64.size a
  k0_off669_inb : ∀ k0_t7 : Fin k0_t7_loop.trips, ∀ (r : Fin 2), ∀ a, (k0_off669 k0_t7 (BitVec.ofNat 32 (3 + r.val))) a + S1x64.size a ≤ S320x64.size a
  k0_off671_inb : ∀ k0_t7 : Fin k0_t7_loop.trips, ∀ a, (k0_off671 k0_t7) a + S1x64.size a ≤ S320x64.size a
  k0_off672_inb : ∀ k0_t7 : Fin k0_t7_loop.trips, ∀ a, (k0_off672 k0_t7) a + S1x64.size a ≤ S64x64.size a
  k0_off674_inb : ∀ k0_t7 : Fin k0_t7_loop.trips, ∀ a, (k0_off674 k0_t7) a + S1x64.size a ≤ S64x64.size a
  k0_off675_inb : ∀ k0_t7 : Fin k0_t7_loop.trips, ∀ a, (k0_off675 k0_t7) a + S1x64.size a ≤ S320x64.size a
  k0_off677_inb : ∀ k0_t7 : Fin k0_t7_loop.trips, ∀ (r : Fin 2), ∀ a, (k0_off677 k0_t7 (BitVec.ofNat 32 r.val)) a + S1x64.size a ≤ S320x64.size a
  k0_off679_inb : ∀ k0_t7 : Fin k0_t7_loop.trips, ∀ (r : Fin 2), ∀ a, (k0_off679 k0_t7 (BitVec.ofNat 32 (1 + r.val))) a + S1x64.size a ≤ S320x64.size a
  k0_off681_inb : ∀ k0_t7 : Fin k0_t7_loop.trips, ∀ (r : Fin 2), ∀ a, (k0_off681 k0_t7 (BitVec.ofNat 32 (2 + r.val))) a + S1x64.size a ≤ S320x64.size a
  k0_off683_inb : ∀ k0_t7 : Fin k0_t7_loop.trips, ∀ (r : Fin 2), ∀ a, (k0_off683 k0_t7 (BitVec.ofNat 32 (3 + r.val))) a + S1x64.size a ≤ S320x64.size a
  k0_off685_inb : ∀ k0_t7 : Fin k0_t7_loop.trips, ∀ a, (k0_off685 k0_t7) a + S1x64.size a ≤ S320x64.size a
  k0_off686_inb : ∀ k0_t7 : Fin k0_t7_loop.trips, ∀ a, (k0_off686 k0_t7) a + S1x64.size a ≤ S64x64.size a
  k0_off688_inb : ∀ k0_t7 : Fin k0_t7_loop.trips, ∀ a, (k0_off688 k0_t7) a + S1x64.size a ≤ S64x64.size a
  k0_off689_inb : ∀ k0_t7 : Fin k0_t7_loop.trips, ∀ a, (k0_off689 k0_t7) a + S1x64.size a ≤ S320x64.size a
  k0_off691_inb : ∀ k0_t7 : Fin k0_t7_loop.trips, ∀ (r : Fin 2), ∀ a, (k0_off691 k0_t7 (BitVec.ofNat 32 r.val)) a + S1x64.size a ≤ S320x64.size a
  k0_off693_inb : ∀ k0_t7 : Fin k0_t7_loop.trips, ∀ (r : Fin 2), ∀ a, (k0_off693 k0_t7 (BitVec.ofNat 32 (1 + r.val))) a + S1x64.size a ≤ S320x64.size a
  k0_off695_inb : ∀ k0_t7 : Fin k0_t7_loop.trips, ∀ (r : Fin 2), ∀ a, (k0_off695 k0_t7 (BitVec.ofNat 32 (2 + r.val))) a + S1x64.size a ≤ S320x64.size a
  k0_off697_inb : ∀ k0_t7 : Fin k0_t7_loop.trips, ∀ (r : Fin 2), ∀ a, (k0_off697 k0_t7 (BitVec.ofNat 32 (3 + r.val))) a + S1x64.size a ≤ S320x64.size a
  k0_off699_inb : ∀ k0_t7 : Fin k0_t7_loop.trips, ∀ a, (k0_off699 k0_t7) a + S1x64.size a ≤ S320x64.size a
  k0_t8_ok : k0_t8_loop.OK
  k0_t9_ok : k0_t9_loop.OK
  k0_off700_inb : ∀ k0_t9 : Fin k0_t9_loop.trips, ∀ a, (k0_off700 k0_t9) a + S1x16.size a ≤ S64x64.size a
  k0_off701_inb : ∀ k0_t9 : Fin k0_t9_loop.trips, ∀ a, (k0_off701 k0_t9) a + S1x16.size a ≤ S64x64.size a
  k0_off702_inb : ∀ k0_t9 : Fin k0_t9_loop.trips, ∀ a, (k0_off702 k0_t9) a + S1x16.size a ≤ S64x64.size a
  k0_off703_inb : ∀ k0_t9 : Fin k0_t9_loop.trips, ∀ a, (k0_off703 k0_t9) a + S1x16.size a ≤ S64x64.size a
  k0_off704_inb : ∀ k0_t9 : Fin k0_t9_loop.trips, ∀ (r : Fin 5), ∀ a, (k0_off704 k0_t9 (BitVec.ofNat 32 r.val)) a + S1x16.size a ≤ S320x64.size a
  k0_off705_inb : ∀ k0_t9 : Fin k0_t9_loop.trips, ∀ (r : Fin 5), ∀ a, (k0_off705 k0_t9 (BitVec.ofNat 32 r.val)) a + S1x16.size a ≤ S320x64.size a
  k0_off706_inb : ∀ k0_t9 : Fin k0_t9_loop.trips, ∀ (r : Fin 5), ∀ a, (k0_off706 k0_t9 (BitVec.ofNat 32 r.val)) a + S1x16.size a ≤ S320x64.size a
  k0_off707_inb : ∀ k0_t9 : Fin k0_t9_loop.trips, ∀ (r : Fin 5), ∀ a, (k0_off707 k0_t9 (BitVec.ofNat 32 r.val)) a + S1x16.size a ≤ S320x64.size a
  k0_off708_inb : ∀ k0_t9 : Fin k0_t9_loop.trips, ∀ (r : Fin 5), ∀ a, (k0_off708 k0_t9 (BitVec.ofNat 32 (16 * r.val))) a + S16.size a ≤ S40960.size a
  k0_t10_ok : k0_t10_loop.OK
  k0_off709_inb : ∀ k0_t10 : Fin k0_t10_loop.trips, ∀ a, (k0_off709 k0_t10) a + S16.size a ≤ S512.size a
  k0_off710_inb : ∀ k0_t10 : Fin k0_t10_loop.trips, ∀ (r : Fin 5), ∀ a, (k0_off710 k0_t10 (BitVec.ofNat 32 (16 * r.val))) a + S16.size a ≤ S2560.size a
  k0_off711_inb : ∀ k0_t10 : Fin k0_t10_loop.trips, ∀ a, (k0_off711 k0_t10) a + S1x64.size a ≤ S64x64.size a
  k0_off713_inb : ∀ k0_t10 : Fin k0_t10_loop.trips, ∀ a, (k0_off713 k0_t10) a + S1x64.size a ≤ S64x64.size a
  k0_off714_inb : ∀ k0_t10 : Fin k0_t10_loop.trips, ∀ a, (k0_off714 k0_t10) a + S1x64.size a ≤ S320x64.size a
  k0_off716_inb : ∀ k0_t10 : Fin k0_t10_loop.trips, ∀ (r : Fin 2), ∀ a, (k0_off716 k0_t10 (BitVec.ofNat 32 r.val)) a + S1x64.size a ≤ S320x64.size a
  k0_off718_inb : ∀ k0_t10 : Fin k0_t10_loop.trips, ∀ (r : Fin 2), ∀ a, (k0_off718 k0_t10 (BitVec.ofNat 32 (1 + r.val))) a + S1x64.size a ≤ S320x64.size a
  k0_off720_inb : ∀ k0_t10 : Fin k0_t10_loop.trips, ∀ (r : Fin 2), ∀ a, (k0_off720 k0_t10 (BitVec.ofNat 32 (2 + r.val))) a + S1x64.size a ≤ S320x64.size a
  k0_off722_inb : ∀ k0_t10 : Fin k0_t10_loop.trips, ∀ (r : Fin 2), ∀ a, (k0_off722 k0_t10 (BitVec.ofNat 32 (3 + r.val))) a + S1x64.size a ≤ S320x64.size a
  k0_off724_inb : ∀ k0_t10 : Fin k0_t10_loop.trips, ∀ a, (k0_off724 k0_t10) a + S1x64.size a ≤ S320x64.size a
  k0_off725_inb : ∀ k0_t10 : Fin k0_t10_loop.trips, ∀ a, (k0_off725 k0_t10) a + S1x64.size a ≤ S64x64.size a
  k0_off727_inb : ∀ k0_t10 : Fin k0_t10_loop.trips, ∀ a, (k0_off727 k0_t10) a + S1x64.size a ≤ S64x64.size a
  k0_off728_inb : ∀ k0_t10 : Fin k0_t10_loop.trips, ∀ a, (k0_off728 k0_t10) a + S1x64.size a ≤ S320x64.size a
  k0_off730_inb : ∀ k0_t10 : Fin k0_t10_loop.trips, ∀ (r : Fin 2), ∀ a, (k0_off730 k0_t10 (BitVec.ofNat 32 r.val)) a + S1x64.size a ≤ S320x64.size a
  k0_off732_inb : ∀ k0_t10 : Fin k0_t10_loop.trips, ∀ (r : Fin 2), ∀ a, (k0_off732 k0_t10 (BitVec.ofNat 32 (1 + r.val))) a + S1x64.size a ≤ S320x64.size a
  k0_off734_inb : ∀ k0_t10 : Fin k0_t10_loop.trips, ∀ (r : Fin 2), ∀ a, (k0_off734 k0_t10 (BitVec.ofNat 32 (2 + r.val))) a + S1x64.size a ≤ S320x64.size a
  k0_off736_inb : ∀ k0_t10 : Fin k0_t10_loop.trips, ∀ (r : Fin 2), ∀ a, (k0_off736 k0_t10 (BitVec.ofNat 32 (3 + r.val))) a + S1x64.size a ≤ S320x64.size a
  k0_off738_inb : ∀ k0_t10 : Fin k0_t10_loop.trips, ∀ a, (k0_off738 k0_t10) a + S1x64.size a ≤ S320x64.size a
  k0_off739_inb : ∀ k0_t10 : Fin k0_t10_loop.trips, ∀ a, (k0_off739 k0_t10) a + S1x64.size a ≤ S64x64.size a
  k0_off741_inb : ∀ k0_t10 : Fin k0_t10_loop.trips, ∀ a, (k0_off741 k0_t10) a + S1x64.size a ≤ S64x64.size a
  k0_off742_inb : ∀ k0_t10 : Fin k0_t10_loop.trips, ∀ a, (k0_off742 k0_t10) a + S1x64.size a ≤ S320x64.size a
  k0_off744_inb : ∀ k0_t10 : Fin k0_t10_loop.trips, ∀ (r : Fin 2), ∀ a, (k0_off744 k0_t10 (BitVec.ofNat 32 r.val)) a + S1x64.size a ≤ S320x64.size a
  k0_off746_inb : ∀ k0_t10 : Fin k0_t10_loop.trips, ∀ (r : Fin 2), ∀ a, (k0_off746 k0_t10 (BitVec.ofNat 32 (1 + r.val))) a + S1x64.size a ≤ S320x64.size a
  k0_off748_inb : ∀ k0_t10 : Fin k0_t10_loop.trips, ∀ (r : Fin 2), ∀ a, (k0_off748 k0_t10 (BitVec.ofNat 32 (2 + r.val))) a + S1x64.size a ≤ S320x64.size a
  k0_off750_inb : ∀ k0_t10 : Fin k0_t10_loop.trips, ∀ (r : Fin 2), ∀ a, (k0_off750 k0_t10 (BitVec.ofNat 32 (3 + r.val))) a + S1x64.size a ≤ S320x64.size a
  k0_off752_inb : ∀ k0_t10 : Fin k0_t10_loop.trips, ∀ a, (k0_off752 k0_t10) a + S1x64.size a ≤ S320x64.size a
  k0_off753_inb : ∀ k0_t10 : Fin k0_t10_loop.trips, ∀ a, (k0_off753 k0_t10) a + S1x64.size a ≤ S64x64.size a
  k0_off755_inb : ∀ k0_t10 : Fin k0_t10_loop.trips, ∀ a, (k0_off755 k0_t10) a + S1x64.size a ≤ S64x64.size a
  k0_off756_inb : ∀ k0_t10 : Fin k0_t10_loop.trips, ∀ a, (k0_off756 k0_t10) a + S1x64.size a ≤ S320x64.size a
  k0_off758_inb : ∀ k0_t10 : Fin k0_t10_loop.trips, ∀ (r : Fin 2), ∀ a, (k0_off758 k0_t10 (BitVec.ofNat 32 r.val)) a + S1x64.size a ≤ S320x64.size a
  k0_off760_inb : ∀ k0_t10 : Fin k0_t10_loop.trips, ∀ (r : Fin 2), ∀ a, (k0_off760 k0_t10 (BitVec.ofNat 32 (1 + r.val))) a + S1x64.size a ≤ S320x64.size a
  k0_off762_inb : ∀ k0_t10 : Fin k0_t10_loop.trips, ∀ (r : Fin 2), ∀ a, (k0_off762 k0_t10 (BitVec.ofNat 32 (2 + r.val))) a + S1x64.size a ≤ S320x64.size a
  k0_off764_inb : ∀ k0_t10 : Fin k0_t10_loop.trips, ∀ (r : Fin 2), ∀ a, (k0_off764 k0_t10 (BitVec.ofNat 32 (3 + r.val))) a + S1x64.size a ≤ S320x64.size a
  k0_off766_inb : ∀ k0_t10 : Fin k0_t10_loop.trips, ∀ a, (k0_off766 k0_t10) a + S1x64.size a ≤ S320x64.size a
  k0_off767_inb : ∀ k0_t10 : Fin k0_t10_loop.trips, ∀ a, (k0_off767 k0_t10) a + S1x64.size a ≤ S64x64.size a
  k0_off769_inb : ∀ k0_t10 : Fin k0_t10_loop.trips, ∀ a, (k0_off769 k0_t10) a + S1x64.size a ≤ S64x64.size a
  k0_off770_inb : ∀ k0_t10 : Fin k0_t10_loop.trips, ∀ a, (k0_off770 k0_t10) a + S1x64.size a ≤ S320x64.size a
  k0_off772_inb : ∀ k0_t10 : Fin k0_t10_loop.trips, ∀ (r : Fin 2), ∀ a, (k0_off772 k0_t10 (BitVec.ofNat 32 r.val)) a + S1x64.size a ≤ S320x64.size a
  k0_off774_inb : ∀ k0_t10 : Fin k0_t10_loop.trips, ∀ (r : Fin 2), ∀ a, (k0_off774 k0_t10 (BitVec.ofNat 32 (1 + r.val))) a + S1x64.size a ≤ S320x64.size a
  k0_off776_inb : ∀ k0_t10 : Fin k0_t10_loop.trips, ∀ (r : Fin 2), ∀ a, (k0_off776 k0_t10 (BitVec.ofNat 32 (2 + r.val))) a + S1x64.size a ≤ S320x64.size a
  k0_off778_inb : ∀ k0_t10 : Fin k0_t10_loop.trips, ∀ (r : Fin 2), ∀ a, (k0_off778 k0_t10 (BitVec.ofNat 32 (3 + r.val))) a + S1x64.size a ≤ S320x64.size a
  k0_off780_inb : ∀ k0_t10 : Fin k0_t10_loop.trips, ∀ a, (k0_off780 k0_t10) a + S1x64.size a ≤ S320x64.size a
  k0_off781_inb : ∀ k0_t10 : Fin k0_t10_loop.trips, ∀ a, (k0_off781 k0_t10) a + S1x64.size a ≤ S64x64.size a
  k0_off783_inb : ∀ k0_t10 : Fin k0_t10_loop.trips, ∀ a, (k0_off783 k0_t10) a + S1x64.size a ≤ S64x64.size a
  k0_off784_inb : ∀ k0_t10 : Fin k0_t10_loop.trips, ∀ a, (k0_off784 k0_t10) a + S1x64.size a ≤ S320x64.size a
  k0_off786_inb : ∀ k0_t10 : Fin k0_t10_loop.trips, ∀ (r : Fin 2), ∀ a, (k0_off786 k0_t10 (BitVec.ofNat 32 r.val)) a + S1x64.size a ≤ S320x64.size a
  k0_off788_inb : ∀ k0_t10 : Fin k0_t10_loop.trips, ∀ (r : Fin 2), ∀ a, (k0_off788 k0_t10 (BitVec.ofNat 32 (1 + r.val))) a + S1x64.size a ≤ S320x64.size a
  k0_off790_inb : ∀ k0_t10 : Fin k0_t10_loop.trips, ∀ (r : Fin 2), ∀ a, (k0_off790 k0_t10 (BitVec.ofNat 32 (2 + r.val))) a + S1x64.size a ≤ S320x64.size a
  k0_off792_inb : ∀ k0_t10 : Fin k0_t10_loop.trips, ∀ (r : Fin 2), ∀ a, (k0_off792 k0_t10 (BitVec.ofNat 32 (3 + r.val))) a + S1x64.size a ≤ S320x64.size a
  k0_off794_inb : ∀ k0_t10 : Fin k0_t10_loop.trips, ∀ a, (k0_off794 k0_t10) a + S1x64.size a ≤ S320x64.size a
  k0_off795_inb : ∀ k0_t10 : Fin k0_t10_loop.trips, ∀ a, (k0_off795 k0_t10) a + S1x64.size a ≤ S64x64.size a
  k0_off797_inb : ∀ k0_t10 : Fin k0_t10_loop.trips, ∀ a, (k0_off797 k0_t10) a + S1x64.size a ≤ S64x64.size a
  k0_off798_inb : ∀ k0_t10 : Fin k0_t10_loop.trips, ∀ a, (k0_off798 k0_t10) a + S1x64.size a ≤ S320x64.size a
  k0_off800_inb : ∀ k0_t10 : Fin k0_t10_loop.trips, ∀ (r : Fin 2), ∀ a, (k0_off800 k0_t10 (BitVec.ofNat 32 r.val)) a + S1x64.size a ≤ S320x64.size a
  k0_off802_inb : ∀ k0_t10 : Fin k0_t10_loop.trips, ∀ (r : Fin 2), ∀ a, (k0_off802 k0_t10 (BitVec.ofNat 32 (1 + r.val))) a + S1x64.size a ≤ S320x64.size a
  k0_off804_inb : ∀ k0_t10 : Fin k0_t10_loop.trips, ∀ (r : Fin 2), ∀ a, (k0_off804 k0_t10 (BitVec.ofNat 32 (2 + r.val))) a + S1x64.size a ≤ S320x64.size a
  k0_off806_inb : ∀ k0_t10 : Fin k0_t10_loop.trips, ∀ (r : Fin 2), ∀ a, (k0_off806 k0_t10 (BitVec.ofNat 32 (3 + r.val))) a + S1x64.size a ≤ S320x64.size a
  k0_off808_inb : ∀ k0_t10 : Fin k0_t10_loop.trips, ∀ a, (k0_off808 k0_t10) a + S1x64.size a ≤ S320x64.size a
  k0_off809_inb : ∀ k0_t10 : Fin k0_t10_loop.trips, ∀ a, (k0_off809 k0_t10) a + S1x64.size a ≤ S64x64.size a
  k0_off811_inb : ∀ k0_t10 : Fin k0_t10_loop.trips, ∀ a, (k0_off811 k0_t10) a + S1x64.size a ≤ S64x64.size a
  k0_off812_inb : ∀ k0_t10 : Fin k0_t10_loop.trips, ∀ a, (k0_off812 k0_t10) a + S1x64.size a ≤ S320x64.size a
  k0_off814_inb : ∀ k0_t10 : Fin k0_t10_loop.trips, ∀ (r : Fin 2), ∀ a, (k0_off814 k0_t10 (BitVec.ofNat 32 r.val)) a + S1x64.size a ≤ S320x64.size a
  k0_off816_inb : ∀ k0_t10 : Fin k0_t10_loop.trips, ∀ (r : Fin 2), ∀ a, (k0_off816 k0_t10 (BitVec.ofNat 32 (1 + r.val))) a + S1x64.size a ≤ S320x64.size a
  k0_off818_inb : ∀ k0_t10 : Fin k0_t10_loop.trips, ∀ (r : Fin 2), ∀ a, (k0_off818 k0_t10 (BitVec.ofNat 32 (2 + r.val))) a + S1x64.size a ≤ S320x64.size a
  k0_off820_inb : ∀ k0_t10 : Fin k0_t10_loop.trips, ∀ (r : Fin 2), ∀ a, (k0_off820 k0_t10 (BitVec.ofNat 32 (3 + r.val))) a + S1x64.size a ≤ S320x64.size a
  k0_off822_inb : ∀ k0_t10 : Fin k0_t10_loop.trips, ∀ a, (k0_off822 k0_t10) a + S1x64.size a ≤ S320x64.size a
  k0_off823_inb : ∀ k0_t10 : Fin k0_t10_loop.trips, ∀ a, (k0_off823 k0_t10) a + S1x64.size a ≤ S64x64.size a
  k0_off825_inb : ∀ k0_t10 : Fin k0_t10_loop.trips, ∀ a, (k0_off825 k0_t10) a + S1x64.size a ≤ S64x64.size a
  k0_off826_inb : ∀ k0_t10 : Fin k0_t10_loop.trips, ∀ a, (k0_off826 k0_t10) a + S1x64.size a ≤ S320x64.size a
  k0_off828_inb : ∀ k0_t10 : Fin k0_t10_loop.trips, ∀ (r : Fin 2), ∀ a, (k0_off828 k0_t10 (BitVec.ofNat 32 r.val)) a + S1x64.size a ≤ S320x64.size a
  k0_off830_inb : ∀ k0_t10 : Fin k0_t10_loop.trips, ∀ (r : Fin 2), ∀ a, (k0_off830 k0_t10 (BitVec.ofNat 32 (1 + r.val))) a + S1x64.size a ≤ S320x64.size a
  k0_off832_inb : ∀ k0_t10 : Fin k0_t10_loop.trips, ∀ (r : Fin 2), ∀ a, (k0_off832 k0_t10 (BitVec.ofNat 32 (2 + r.val))) a + S1x64.size a ≤ S320x64.size a
  k0_off834_inb : ∀ k0_t10 : Fin k0_t10_loop.trips, ∀ (r : Fin 2), ∀ a, (k0_off834 k0_t10 (BitVec.ofNat 32 (3 + r.val))) a + S1x64.size a ≤ S320x64.size a
  k0_off836_inb : ∀ k0_t10 : Fin k0_t10_loop.trips, ∀ a, (k0_off836 k0_t10) a + S1x64.size a ≤ S320x64.size a
  k0_off837_inb : ∀ k0_t10 : Fin k0_t10_loop.trips, ∀ a, (k0_off837 k0_t10) a + S1x64.size a ≤ S64x64.size a
  k0_off839_inb : ∀ k0_t10 : Fin k0_t10_loop.trips, ∀ a, (k0_off839 k0_t10) a + S1x64.size a ≤ S64x64.size a
  k0_off840_inb : ∀ k0_t10 : Fin k0_t10_loop.trips, ∀ a, (k0_off840 k0_t10) a + S1x64.size a ≤ S320x64.size a
  k0_off842_inb : ∀ k0_t10 : Fin k0_t10_loop.trips, ∀ (r : Fin 2), ∀ a, (k0_off842 k0_t10 (BitVec.ofNat 32 r.val)) a + S1x64.size a ≤ S320x64.size a
  k0_off844_inb : ∀ k0_t10 : Fin k0_t10_loop.trips, ∀ (r : Fin 2), ∀ a, (k0_off844 k0_t10 (BitVec.ofNat 32 (1 + r.val))) a + S1x64.size a ≤ S320x64.size a
  k0_off846_inb : ∀ k0_t10 : Fin k0_t10_loop.trips, ∀ (r : Fin 2), ∀ a, (k0_off846 k0_t10 (BitVec.ofNat 32 (2 + r.val))) a + S1x64.size a ≤ S320x64.size a
  k0_off848_inb : ∀ k0_t10 : Fin k0_t10_loop.trips, ∀ (r : Fin 2), ∀ a, (k0_off848 k0_t10 (BitVec.ofNat 32 (3 + r.val))) a + S1x64.size a ≤ S320x64.size a
  k0_off850_inb : ∀ k0_t10 : Fin k0_t10_loop.trips, ∀ a, (k0_off850 k0_t10) a + S1x64.size a ≤ S320x64.size a
  k0_off851_inb : ∀ k0_t10 : Fin k0_t10_loop.trips, ∀ a, (k0_off851 k0_t10) a + S1x64.size a ≤ S64x64.size a
  k0_off853_inb : ∀ k0_t10 : Fin k0_t10_loop.trips, ∀ a, (k0_off853 k0_t10) a + S1x64.size a ≤ S64x64.size a
  k0_off854_inb : ∀ k0_t10 : Fin k0_t10_loop.trips, ∀ a, (k0_off854 k0_t10) a + S1x64.size a ≤ S320x64.size a
  k0_off856_inb : ∀ k0_t10 : Fin k0_t10_loop.trips, ∀ (r : Fin 2), ∀ a, (k0_off856 k0_t10 (BitVec.ofNat 32 r.val)) a + S1x64.size a ≤ S320x64.size a
  k0_off858_inb : ∀ k0_t10 : Fin k0_t10_loop.trips, ∀ (r : Fin 2), ∀ a, (k0_off858 k0_t10 (BitVec.ofNat 32 (1 + r.val))) a + S1x64.size a ≤ S320x64.size a
  k0_off860_inb : ∀ k0_t10 : Fin k0_t10_loop.trips, ∀ (r : Fin 2), ∀ a, (k0_off860 k0_t10 (BitVec.ofNat 32 (2 + r.val))) a + S1x64.size a ≤ S320x64.size a
  k0_off862_inb : ∀ k0_t10 : Fin k0_t10_loop.trips, ∀ (r : Fin 2), ∀ a, (k0_off862 k0_t10 (BitVec.ofNat 32 (3 + r.val))) a + S1x64.size a ≤ S320x64.size a
  k0_off864_inb : ∀ k0_t10 : Fin k0_t10_loop.trips, ∀ a, (k0_off864 k0_t10) a + S1x64.size a ≤ S320x64.size a
  k0_off865_inb : ∀ k0_t10 : Fin k0_t10_loop.trips, ∀ a, (k0_off865 k0_t10) a + S1x64.size a ≤ S64x64.size a
  k0_off867_inb : ∀ k0_t10 : Fin k0_t10_loop.trips, ∀ a, (k0_off867 k0_t10) a + S1x64.size a ≤ S64x64.size a
  k0_off868_inb : ∀ k0_t10 : Fin k0_t10_loop.trips, ∀ a, (k0_off868 k0_t10) a + S1x64.size a ≤ S320x64.size a
  k0_off870_inb : ∀ k0_t10 : Fin k0_t10_loop.trips, ∀ (r : Fin 2), ∀ a, (k0_off870 k0_t10 (BitVec.ofNat 32 r.val)) a + S1x64.size a ≤ S320x64.size a
  k0_off872_inb : ∀ k0_t10 : Fin k0_t10_loop.trips, ∀ (r : Fin 2), ∀ a, (k0_off872 k0_t10 (BitVec.ofNat 32 (1 + r.val))) a + S1x64.size a ≤ S320x64.size a
  k0_off874_inb : ∀ k0_t10 : Fin k0_t10_loop.trips, ∀ (r : Fin 2), ∀ a, (k0_off874 k0_t10 (BitVec.ofNat 32 (2 + r.val))) a + S1x64.size a ≤ S320x64.size a
  k0_off876_inb : ∀ k0_t10 : Fin k0_t10_loop.trips, ∀ (r : Fin 2), ∀ a, (k0_off876 k0_t10 (BitVec.ofNat 32 (3 + r.val))) a + S1x64.size a ≤ S320x64.size a
  k0_off878_inb : ∀ k0_t10 : Fin k0_t10_loop.trips, ∀ a, (k0_off878 k0_t10) a + S1x64.size a ≤ S320x64.size a
  k0_off879_inb : ∀ k0_t10 : Fin k0_t10_loop.trips, ∀ a, (k0_off879 k0_t10) a + S1x64.size a ≤ S64x64.size a
  k0_off881_inb : ∀ k0_t10 : Fin k0_t10_loop.trips, ∀ a, (k0_off881 k0_t10) a + S1x64.size a ≤ S64x64.size a
  k0_off882_inb : ∀ k0_t10 : Fin k0_t10_loop.trips, ∀ a, (k0_off882 k0_t10) a + S1x64.size a ≤ S320x64.size a
  k0_off884_inb : ∀ k0_t10 : Fin k0_t10_loop.trips, ∀ (r : Fin 2), ∀ a, (k0_off884 k0_t10 (BitVec.ofNat 32 r.val)) a + S1x64.size a ≤ S320x64.size a
  k0_off886_inb : ∀ k0_t10 : Fin k0_t10_loop.trips, ∀ (r : Fin 2), ∀ a, (k0_off886 k0_t10 (BitVec.ofNat 32 (1 + r.val))) a + S1x64.size a ≤ S320x64.size a
  k0_off888_inb : ∀ k0_t10 : Fin k0_t10_loop.trips, ∀ (r : Fin 2), ∀ a, (k0_off888 k0_t10 (BitVec.ofNat 32 (2 + r.val))) a + S1x64.size a ≤ S320x64.size a
  k0_off890_inb : ∀ k0_t10 : Fin k0_t10_loop.trips, ∀ (r : Fin 2), ∀ a, (k0_off890 k0_t10 (BitVec.ofNat 32 (3 + r.val))) a + S1x64.size a ≤ S320x64.size a
  k0_off892_inb : ∀ k0_t10 : Fin k0_t10_loop.trips, ∀ a, (k0_off892 k0_t10) a + S1x64.size a ≤ S320x64.size a
  k0_off893_inb : ∀ k0_t10 : Fin k0_t10_loop.trips, ∀ a, (k0_off893 k0_t10) a + S1x64.size a ≤ S64x64.size a
  k0_off895_inb : ∀ k0_t10 : Fin k0_t10_loop.trips, ∀ a, (k0_off895 k0_t10) a + S1x64.size a ≤ S64x64.size a
  k0_off896_inb : ∀ k0_t10 : Fin k0_t10_loop.trips, ∀ a, (k0_off896 k0_t10) a + S1x64.size a ≤ S320x64.size a
  k0_off898_inb : ∀ k0_t10 : Fin k0_t10_loop.trips, ∀ (r : Fin 2), ∀ a, (k0_off898 k0_t10 (BitVec.ofNat 32 r.val)) a + S1x64.size a ≤ S320x64.size a
  k0_off900_inb : ∀ k0_t10 : Fin k0_t10_loop.trips, ∀ (r : Fin 2), ∀ a, (k0_off900 k0_t10 (BitVec.ofNat 32 (1 + r.val))) a + S1x64.size a ≤ S320x64.size a
  k0_off902_inb : ∀ k0_t10 : Fin k0_t10_loop.trips, ∀ (r : Fin 2), ∀ a, (k0_off902 k0_t10 (BitVec.ofNat 32 (2 + r.val))) a + S1x64.size a ≤ S320x64.size a
  k0_off904_inb : ∀ k0_t10 : Fin k0_t10_loop.trips, ∀ (r : Fin 2), ∀ a, (k0_off904 k0_t10 (BitVec.ofNat 32 (3 + r.val))) a + S1x64.size a ≤ S320x64.size a
  k0_off906_inb : ∀ k0_t10 : Fin k0_t10_loop.trips, ∀ a, (k0_off906 k0_t10) a + S1x64.size a ≤ S320x64.size a
  k0_off907_inb : ∀ k0_t10 : Fin k0_t10_loop.trips, ∀ a, (k0_off907 k0_t10) a + S1x64.size a ≤ S64x64.size a
  k0_off909_inb : ∀ k0_t10 : Fin k0_t10_loop.trips, ∀ a, (k0_off909 k0_t10) a + S1x64.size a ≤ S64x64.size a
  k0_off910_inb : ∀ k0_t10 : Fin k0_t10_loop.trips, ∀ a, (k0_off910 k0_t10) a + S1x64.size a ≤ S320x64.size a
  k0_off912_inb : ∀ k0_t10 : Fin k0_t10_loop.trips, ∀ (r : Fin 2), ∀ a, (k0_off912 k0_t10 (BitVec.ofNat 32 r.val)) a + S1x64.size a ≤ S320x64.size a
  k0_off914_inb : ∀ k0_t10 : Fin k0_t10_loop.trips, ∀ (r : Fin 2), ∀ a, (k0_off914 k0_t10 (BitVec.ofNat 32 (1 + r.val))) a + S1x64.size a ≤ S320x64.size a
  k0_off916_inb : ∀ k0_t10 : Fin k0_t10_loop.trips, ∀ (r : Fin 2), ∀ a, (k0_off916 k0_t10 (BitVec.ofNat 32 (2 + r.val))) a + S1x64.size a ≤ S320x64.size a
  k0_off918_inb : ∀ k0_t10 : Fin k0_t10_loop.trips, ∀ (r : Fin 2), ∀ a, (k0_off918 k0_t10 (BitVec.ofNat 32 (3 + r.val))) a + S1x64.size a ≤ S320x64.size a
  k0_off920_inb : ∀ k0_t10 : Fin k0_t10_loop.trips, ∀ a, (k0_off920 k0_t10) a + S1x64.size a ≤ S320x64.size a
  k0_off921_inb : ∀ k0_t10 : Fin k0_t10_loop.trips, ∀ a, (k0_off921 k0_t10) a + S1x64.size a ≤ S64x64.size a
  k0_off923_inb : ∀ k0_t10 : Fin k0_t10_loop.trips, ∀ a, (k0_off923 k0_t10) a + S1x64.size a ≤ S64x64.size a
  k0_off924_inb : ∀ k0_t10 : Fin k0_t10_loop.trips, ∀ a, (k0_off924 k0_t10) a + S1x64.size a ≤ S320x64.size a
  k0_off926_inb : ∀ k0_t10 : Fin k0_t10_loop.trips, ∀ (r : Fin 2), ∀ a, (k0_off926 k0_t10 (BitVec.ofNat 32 r.val)) a + S1x64.size a ≤ S320x64.size a
  k0_off928_inb : ∀ k0_t10 : Fin k0_t10_loop.trips, ∀ (r : Fin 2), ∀ a, (k0_off928 k0_t10 (BitVec.ofNat 32 (1 + r.val))) a + S1x64.size a ≤ S320x64.size a
  k0_off930_inb : ∀ k0_t10 : Fin k0_t10_loop.trips, ∀ (r : Fin 2), ∀ a, (k0_off930 k0_t10 (BitVec.ofNat 32 (2 + r.val))) a + S1x64.size a ≤ S320x64.size a
  k0_off932_inb : ∀ k0_t10 : Fin k0_t10_loop.trips, ∀ (r : Fin 2), ∀ a, (k0_off932 k0_t10 (BitVec.ofNat 32 (3 + r.val))) a + S1x64.size a ≤ S320x64.size a
  k0_off934_inb : ∀ k0_t10 : Fin k0_t10_loop.trips, ∀ a, (k0_off934 k0_t10) a + S1x64.size a ≤ S320x64.size a
  k0_t11_ok : k0_t11_loop.OK
  k0_t12_ok : k0_t12_loop.OK
  k0_off935_inb : ∀ k0_t12 : Fin k0_t12_loop.trips, ∀ a, (k0_off935 k0_t12) a + S1x16.size a ≤ S64x64.size a
  k0_off936_inb : ∀ k0_t12 : Fin k0_t12_loop.trips, ∀ a, (k0_off936 k0_t12) a + S1x16.size a ≤ S64x64.size a
  k0_off937_inb : ∀ k0_t12 : Fin k0_t12_loop.trips, ∀ a, (k0_off937 k0_t12) a + S1x16.size a ≤ S64x64.size a
  k0_off938_inb : ∀ k0_t12 : Fin k0_t12_loop.trips, ∀ a, (k0_off938 k0_t12) a + S1x16.size a ≤ S64x64.size a
  k0_off939_inb : ∀ k0_t12 : Fin k0_t12_loop.trips, ∀ (r : Fin 5), ∀ a, (k0_off939 k0_t12 (BitVec.ofNat 32 r.val)) a + S1x16.size a ≤ S320x64.size a
  k0_off940_inb : ∀ k0_t12 : Fin k0_t12_loop.trips, ∀ (r : Fin 5), ∀ a, (k0_off940 k0_t12 (BitVec.ofNat 32 r.val)) a + S1x16.size a ≤ S320x64.size a
  k0_off941_inb : ∀ k0_t12 : Fin k0_t12_loop.trips, ∀ (r : Fin 5), ∀ a, (k0_off941 k0_t12 (BitVec.ofNat 32 r.val)) a + S1x16.size a ≤ S320x64.size a
  k0_off942_inb : ∀ k0_t12 : Fin k0_t12_loop.trips, ∀ (r : Fin 5), ∀ a, (k0_off942 k0_t12 (BitVec.ofNat 32 r.val)) a + S1x16.size a ≤ S320x64.size a
  k0_off943_inb : ∀ k0_t12 : Fin k0_t12_loop.trips, ∀ (r : Fin 5), ∀ a, (k0_off943 k0_t12 (BitVec.ofNat 32 (16 * r.val))) a + S16.size a ≤ S40960.size a
  k0_t13_ok : k0_t13_loop.OK
  k0_off944_inb : ∀ k0_t13 : Fin k0_t13_loop.trips, ∀ a, (k0_off944 k0_t13) a + S16.size a ≤ S512.size a
  k0_off945_inb : ∀ k0_t13 : Fin k0_t13_loop.trips, ∀ (r : Fin 5), ∀ a, (k0_off945 k0_t13 (BitVec.ofNat 32 (16 * r.val))) a + S16.size a ≤ S2560.size a
  k0_off946_inb : ∀ k0_t13 : Fin k0_t13_loop.trips, ∀ a, (k0_off946 k0_t13) a + S1x64.size a ≤ S64x64.size a
  k0_off948_inb : ∀ k0_t13 : Fin k0_t13_loop.trips, ∀ a, (k0_off948 k0_t13) a + S1x64.size a ≤ S64x64.size a
  k0_off949_inb : ∀ k0_t13 : Fin k0_t13_loop.trips, ∀ a, (k0_off949 k0_t13) a + S1x64.size a ≤ S320x64.size a
  k0_off951_inb : ∀ k0_t13 : Fin k0_t13_loop.trips, ∀ (r : Fin 2), ∀ a, (k0_off951 k0_t13 (BitVec.ofNat 32 r.val)) a + S1x64.size a ≤ S320x64.size a
  k0_off953_inb : ∀ k0_t13 : Fin k0_t13_loop.trips, ∀ (r : Fin 2), ∀ a, (k0_off953 k0_t13 (BitVec.ofNat 32 (1 + r.val))) a + S1x64.size a ≤ S320x64.size a
  k0_off955_inb : ∀ k0_t13 : Fin k0_t13_loop.trips, ∀ (r : Fin 2), ∀ a, (k0_off955 k0_t13 (BitVec.ofNat 32 (2 + r.val))) a + S1x64.size a ≤ S320x64.size a
  k0_off957_inb : ∀ k0_t13 : Fin k0_t13_loop.trips, ∀ (r : Fin 2), ∀ a, (k0_off957 k0_t13 (BitVec.ofNat 32 (3 + r.val))) a + S1x64.size a ≤ S320x64.size a
  k0_off959_inb : ∀ k0_t13 : Fin k0_t13_loop.trips, ∀ a, (k0_off959 k0_t13) a + S1x64.size a ≤ S320x64.size a
  k0_off960_inb : ∀ k0_t13 : Fin k0_t13_loop.trips, ∀ a, (k0_off960 k0_t13) a + S1x64.size a ≤ S64x64.size a
  k0_off962_inb : ∀ k0_t13 : Fin k0_t13_loop.trips, ∀ a, (k0_off962 k0_t13) a + S1x64.size a ≤ S64x64.size a
  k0_off963_inb : ∀ k0_t13 : Fin k0_t13_loop.trips, ∀ a, (k0_off963 k0_t13) a + S1x64.size a ≤ S320x64.size a
  k0_off965_inb : ∀ k0_t13 : Fin k0_t13_loop.trips, ∀ (r : Fin 2), ∀ a, (k0_off965 k0_t13 (BitVec.ofNat 32 r.val)) a + S1x64.size a ≤ S320x64.size a
  k0_off967_inb : ∀ k0_t13 : Fin k0_t13_loop.trips, ∀ (r : Fin 2), ∀ a, (k0_off967 k0_t13 (BitVec.ofNat 32 (1 + r.val))) a + S1x64.size a ≤ S320x64.size a
  k0_off969_inb : ∀ k0_t13 : Fin k0_t13_loop.trips, ∀ (r : Fin 2), ∀ a, (k0_off969 k0_t13 (BitVec.ofNat 32 (2 + r.val))) a + S1x64.size a ≤ S320x64.size a
  k0_off971_inb : ∀ k0_t13 : Fin k0_t13_loop.trips, ∀ (r : Fin 2), ∀ a, (k0_off971 k0_t13 (BitVec.ofNat 32 (3 + r.val))) a + S1x64.size a ≤ S320x64.size a
  k0_off973_inb : ∀ k0_t13 : Fin k0_t13_loop.trips, ∀ a, (k0_off973 k0_t13) a + S1x64.size a ≤ S320x64.size a
  k0_off974_inb : ∀ k0_t13 : Fin k0_t13_loop.trips, ∀ a, (k0_off974 k0_t13) a + S1x64.size a ≤ S64x64.size a
  k0_off976_inb : ∀ k0_t13 : Fin k0_t13_loop.trips, ∀ a, (k0_off976 k0_t13) a + S1x64.size a ≤ S64x64.size a
  k0_off977_inb : ∀ k0_t13 : Fin k0_t13_loop.trips, ∀ a, (k0_off977 k0_t13) a + S1x64.size a ≤ S320x64.size a
  k0_off979_inb : ∀ k0_t13 : Fin k0_t13_loop.trips, ∀ (r : Fin 2), ∀ a, (k0_off979 k0_t13 (BitVec.ofNat 32 r.val)) a + S1x64.size a ≤ S320x64.size a
  k0_off981_inb : ∀ k0_t13 : Fin k0_t13_loop.trips, ∀ (r : Fin 2), ∀ a, (k0_off981 k0_t13 (BitVec.ofNat 32 (1 + r.val))) a + S1x64.size a ≤ S320x64.size a
  k0_off983_inb : ∀ k0_t13 : Fin k0_t13_loop.trips, ∀ (r : Fin 2), ∀ a, (k0_off983 k0_t13 (BitVec.ofNat 32 (2 + r.val))) a + S1x64.size a ≤ S320x64.size a
  k0_off985_inb : ∀ k0_t13 : Fin k0_t13_loop.trips, ∀ (r : Fin 2), ∀ a, (k0_off985 k0_t13 (BitVec.ofNat 32 (3 + r.val))) a + S1x64.size a ≤ S320x64.size a
  k0_off987_inb : ∀ k0_t13 : Fin k0_t13_loop.trips, ∀ a, (k0_off987 k0_t13) a + S1x64.size a ≤ S320x64.size a
  k0_off988_inb : ∀ k0_t13 : Fin k0_t13_loop.trips, ∀ a, (k0_off988 k0_t13) a + S1x64.size a ≤ S64x64.size a
  k0_off990_inb : ∀ k0_t13 : Fin k0_t13_loop.trips, ∀ a, (k0_off990 k0_t13) a + S1x64.size a ≤ S64x64.size a
  k0_off991_inb : ∀ k0_t13 : Fin k0_t13_loop.trips, ∀ a, (k0_off991 k0_t13) a + S1x64.size a ≤ S320x64.size a
  k0_off993_inb : ∀ k0_t13 : Fin k0_t13_loop.trips, ∀ (r : Fin 2), ∀ a, (k0_off993 k0_t13 (BitVec.ofNat 32 r.val)) a + S1x64.size a ≤ S320x64.size a
  k0_off995_inb : ∀ k0_t13 : Fin k0_t13_loop.trips, ∀ (r : Fin 2), ∀ a, (k0_off995 k0_t13 (BitVec.ofNat 32 (1 + r.val))) a + S1x64.size a ≤ S320x64.size a
  k0_off997_inb : ∀ k0_t13 : Fin k0_t13_loop.trips, ∀ (r : Fin 2), ∀ a, (k0_off997 k0_t13 (BitVec.ofNat 32 (2 + r.val))) a + S1x64.size a ≤ S320x64.size a
  k0_off999_inb : ∀ k0_t13 : Fin k0_t13_loop.trips, ∀ (r : Fin 2), ∀ a, (k0_off999 k0_t13 (BitVec.ofNat 32 (3 + r.val))) a + S1x64.size a ≤ S320x64.size a
  k0_off1001_inb : ∀ k0_t13 : Fin k0_t13_loop.trips, ∀ a, (k0_off1001 k0_t13) a + S1x64.size a ≤ S320x64.size a
  k0_off1002_inb : ∀ k0_t13 : Fin k0_t13_loop.trips, ∀ a, (k0_off1002 k0_t13) a + S1x64.size a ≤ S64x64.size a
  k0_off1004_inb : ∀ k0_t13 : Fin k0_t13_loop.trips, ∀ a, (k0_off1004 k0_t13) a + S1x64.size a ≤ S64x64.size a
  k0_off1005_inb : ∀ k0_t13 : Fin k0_t13_loop.trips, ∀ a, (k0_off1005 k0_t13) a + S1x64.size a ≤ S320x64.size a
  k0_off1007_inb : ∀ k0_t13 : Fin k0_t13_loop.trips, ∀ (r : Fin 2), ∀ a, (k0_off1007 k0_t13 (BitVec.ofNat 32 r.val)) a + S1x64.size a ≤ S320x64.size a
  k0_off1009_inb : ∀ k0_t13 : Fin k0_t13_loop.trips, ∀ (r : Fin 2), ∀ a, (k0_off1009 k0_t13 (BitVec.ofNat 32 (1 + r.val))) a + S1x64.size a ≤ S320x64.size a
  k0_off1011_inb : ∀ k0_t13 : Fin k0_t13_loop.trips, ∀ (r : Fin 2), ∀ a, (k0_off1011 k0_t13 (BitVec.ofNat 32 (2 + r.val))) a + S1x64.size a ≤ S320x64.size a
  k0_off1013_inb : ∀ k0_t13 : Fin k0_t13_loop.trips, ∀ (r : Fin 2), ∀ a, (k0_off1013 k0_t13 (BitVec.ofNat 32 (3 + r.val))) a + S1x64.size a ≤ S320x64.size a
  k0_off1015_inb : ∀ k0_t13 : Fin k0_t13_loop.trips, ∀ a, (k0_off1015 k0_t13) a + S1x64.size a ≤ S320x64.size a
  k0_off1016_inb : ∀ k0_t13 : Fin k0_t13_loop.trips, ∀ a, (k0_off1016 k0_t13) a + S1x64.size a ≤ S64x64.size a
  k0_off1018_inb : ∀ k0_t13 : Fin k0_t13_loop.trips, ∀ a, (k0_off1018 k0_t13) a + S1x64.size a ≤ S64x64.size a
  k0_off1019_inb : ∀ k0_t13 : Fin k0_t13_loop.trips, ∀ a, (k0_off1019 k0_t13) a + S1x64.size a ≤ S320x64.size a
  k0_off1021_inb : ∀ k0_t13 : Fin k0_t13_loop.trips, ∀ (r : Fin 2), ∀ a, (k0_off1021 k0_t13 (BitVec.ofNat 32 r.val)) a + S1x64.size a ≤ S320x64.size a
  k0_off1023_inb : ∀ k0_t13 : Fin k0_t13_loop.trips, ∀ (r : Fin 2), ∀ a, (k0_off1023 k0_t13 (BitVec.ofNat 32 (1 + r.val))) a + S1x64.size a ≤ S320x64.size a
  k0_off1025_inb : ∀ k0_t13 : Fin k0_t13_loop.trips, ∀ (r : Fin 2), ∀ a, (k0_off1025 k0_t13 (BitVec.ofNat 32 (2 + r.val))) a + S1x64.size a ≤ S320x64.size a
  k0_off1027_inb : ∀ k0_t13 : Fin k0_t13_loop.trips, ∀ (r : Fin 2), ∀ a, (k0_off1027 k0_t13 (BitVec.ofNat 32 (3 + r.val))) a + S1x64.size a ≤ S320x64.size a
  k0_off1029_inb : ∀ k0_t13 : Fin k0_t13_loop.trips, ∀ a, (k0_off1029 k0_t13) a + S1x64.size a ≤ S320x64.size a
  k0_off1030_inb : ∀ k0_t13 : Fin k0_t13_loop.trips, ∀ a, (k0_off1030 k0_t13) a + S1x64.size a ≤ S64x64.size a
  k0_off1032_inb : ∀ k0_t13 : Fin k0_t13_loop.trips, ∀ a, (k0_off1032 k0_t13) a + S1x64.size a ≤ S64x64.size a
  k0_off1033_inb : ∀ k0_t13 : Fin k0_t13_loop.trips, ∀ a, (k0_off1033 k0_t13) a + S1x64.size a ≤ S320x64.size a
  k0_off1035_inb : ∀ k0_t13 : Fin k0_t13_loop.trips, ∀ (r : Fin 2), ∀ a, (k0_off1035 k0_t13 (BitVec.ofNat 32 r.val)) a + S1x64.size a ≤ S320x64.size a
  k0_off1037_inb : ∀ k0_t13 : Fin k0_t13_loop.trips, ∀ (r : Fin 2), ∀ a, (k0_off1037 k0_t13 (BitVec.ofNat 32 (1 + r.val))) a + S1x64.size a ≤ S320x64.size a
  k0_off1039_inb : ∀ k0_t13 : Fin k0_t13_loop.trips, ∀ (r : Fin 2), ∀ a, (k0_off1039 k0_t13 (BitVec.ofNat 32 (2 + r.val))) a + S1x64.size a ≤ S320x64.size a
  k0_off1041_inb : ∀ k0_t13 : Fin k0_t13_loop.trips, ∀ (r : Fin 2), ∀ a, (k0_off1041 k0_t13 (BitVec.ofNat 32 (3 + r.val))) a + S1x64.size a ≤ S320x64.size a
  k0_off1043_inb : ∀ k0_t13 : Fin k0_t13_loop.trips, ∀ a, (k0_off1043 k0_t13) a + S1x64.size a ≤ S320x64.size a
  k0_off1044_inb : ∀ k0_t13 : Fin k0_t13_loop.trips, ∀ a, (k0_off1044 k0_t13) a + S1x64.size a ≤ S64x64.size a
  k0_off1046_inb : ∀ k0_t13 : Fin k0_t13_loop.trips, ∀ a, (k0_off1046 k0_t13) a + S1x64.size a ≤ S64x64.size a
  k0_off1047_inb : ∀ k0_t13 : Fin k0_t13_loop.trips, ∀ a, (k0_off1047 k0_t13) a + S1x64.size a ≤ S320x64.size a
  k0_off1049_inb : ∀ k0_t13 : Fin k0_t13_loop.trips, ∀ (r : Fin 2), ∀ a, (k0_off1049 k0_t13 (BitVec.ofNat 32 r.val)) a + S1x64.size a ≤ S320x64.size a
  k0_off1051_inb : ∀ k0_t13 : Fin k0_t13_loop.trips, ∀ (r : Fin 2), ∀ a, (k0_off1051 k0_t13 (BitVec.ofNat 32 (1 + r.val))) a + S1x64.size a ≤ S320x64.size a
  k0_off1053_inb : ∀ k0_t13 : Fin k0_t13_loop.trips, ∀ (r : Fin 2), ∀ a, (k0_off1053 k0_t13 (BitVec.ofNat 32 (2 + r.val))) a + S1x64.size a ≤ S320x64.size a
  k0_off1055_inb : ∀ k0_t13 : Fin k0_t13_loop.trips, ∀ (r : Fin 2), ∀ a, (k0_off1055 k0_t13 (BitVec.ofNat 32 (3 + r.val))) a + S1x64.size a ≤ S320x64.size a
  k0_off1057_inb : ∀ k0_t13 : Fin k0_t13_loop.trips, ∀ a, (k0_off1057 k0_t13) a + S1x64.size a ≤ S320x64.size a
  k0_off1058_inb : ∀ k0_t13 : Fin k0_t13_loop.trips, ∀ a, (k0_off1058 k0_t13) a + S1x64.size a ≤ S64x64.size a
  k0_off1060_inb : ∀ k0_t13 : Fin k0_t13_loop.trips, ∀ a, (k0_off1060 k0_t13) a + S1x64.size a ≤ S64x64.size a
  k0_off1061_inb : ∀ k0_t13 : Fin k0_t13_loop.trips, ∀ a, (k0_off1061 k0_t13) a + S1x64.size a ≤ S320x64.size a
  k0_off1063_inb : ∀ k0_t13 : Fin k0_t13_loop.trips, ∀ (r : Fin 2), ∀ a, (k0_off1063 k0_t13 (BitVec.ofNat 32 r.val)) a + S1x64.size a ≤ S320x64.size a
  k0_off1065_inb : ∀ k0_t13 : Fin k0_t13_loop.trips, ∀ (r : Fin 2), ∀ a, (k0_off1065 k0_t13 (BitVec.ofNat 32 (1 + r.val))) a + S1x64.size a ≤ S320x64.size a
  k0_off1067_inb : ∀ k0_t13 : Fin k0_t13_loop.trips, ∀ (r : Fin 2), ∀ a, (k0_off1067 k0_t13 (BitVec.ofNat 32 (2 + r.val))) a + S1x64.size a ≤ S320x64.size a
  k0_off1069_inb : ∀ k0_t13 : Fin k0_t13_loop.trips, ∀ (r : Fin 2), ∀ a, (k0_off1069 k0_t13 (BitVec.ofNat 32 (3 + r.val))) a + S1x64.size a ≤ S320x64.size a
  k0_off1071_inb : ∀ k0_t13 : Fin k0_t13_loop.trips, ∀ a, (k0_off1071 k0_t13) a + S1x64.size a ≤ S320x64.size a
  k0_off1072_inb : ∀ k0_t13 : Fin k0_t13_loop.trips, ∀ a, (k0_off1072 k0_t13) a + S1x64.size a ≤ S64x64.size a
  k0_off1074_inb : ∀ k0_t13 : Fin k0_t13_loop.trips, ∀ a, (k0_off1074 k0_t13) a + S1x64.size a ≤ S64x64.size a
  k0_off1075_inb : ∀ k0_t13 : Fin k0_t13_loop.trips, ∀ a, (k0_off1075 k0_t13) a + S1x64.size a ≤ S320x64.size a
  k0_off1077_inb : ∀ k0_t13 : Fin k0_t13_loop.trips, ∀ (r : Fin 2), ∀ a, (k0_off1077 k0_t13 (BitVec.ofNat 32 r.val)) a + S1x64.size a ≤ S320x64.size a
  k0_off1079_inb : ∀ k0_t13 : Fin k0_t13_loop.trips, ∀ (r : Fin 2), ∀ a, (k0_off1079 k0_t13 (BitVec.ofNat 32 (1 + r.val))) a + S1x64.size a ≤ S320x64.size a
  k0_off1081_inb : ∀ k0_t13 : Fin k0_t13_loop.trips, ∀ (r : Fin 2), ∀ a, (k0_off1081 k0_t13 (BitVec.ofNat 32 (2 + r.val))) a + S1x64.size a ≤ S320x64.size a
  k0_off1083_inb : ∀ k0_t13 : Fin k0_t13_loop.trips, ∀ (r : Fin 2), ∀ a, (k0_off1083 k0_t13 (BitVec.ofNat 32 (3 + r.val))) a + S1x64.size a ≤ S320x64.size a
  k0_off1085_inb : ∀ k0_t13 : Fin k0_t13_loop.trips, ∀ a, (k0_off1085 k0_t13) a + S1x64.size a ≤ S320x64.size a
  k0_off1086_inb : ∀ k0_t13 : Fin k0_t13_loop.trips, ∀ a, (k0_off1086 k0_t13) a + S1x64.size a ≤ S64x64.size a
  k0_off1088_inb : ∀ k0_t13 : Fin k0_t13_loop.trips, ∀ a, (k0_off1088 k0_t13) a + S1x64.size a ≤ S64x64.size a
  k0_off1089_inb : ∀ k0_t13 : Fin k0_t13_loop.trips, ∀ a, (k0_off1089 k0_t13) a + S1x64.size a ≤ S320x64.size a
  k0_off1091_inb : ∀ k0_t13 : Fin k0_t13_loop.trips, ∀ (r : Fin 2), ∀ a, (k0_off1091 k0_t13 (BitVec.ofNat 32 r.val)) a + S1x64.size a ≤ S320x64.size a
  k0_off1093_inb : ∀ k0_t13 : Fin k0_t13_loop.trips, ∀ (r : Fin 2), ∀ a, (k0_off1093 k0_t13 (BitVec.ofNat 32 (1 + r.val))) a + S1x64.size a ≤ S320x64.size a
  k0_off1095_inb : ∀ k0_t13 : Fin k0_t13_loop.trips, ∀ (r : Fin 2), ∀ a, (k0_off1095 k0_t13 (BitVec.ofNat 32 (2 + r.val))) a + S1x64.size a ≤ S320x64.size a
  k0_off1097_inb : ∀ k0_t13 : Fin k0_t13_loop.trips, ∀ (r : Fin 2), ∀ a, (k0_off1097 k0_t13 (BitVec.ofNat 32 (3 + r.val))) a + S1x64.size a ≤ S320x64.size a
  k0_off1099_inb : ∀ k0_t13 : Fin k0_t13_loop.trips, ∀ a, (k0_off1099 k0_t13) a + S1x64.size a ≤ S320x64.size a
  k0_off1100_inb : ∀ k0_t13 : Fin k0_t13_loop.trips, ∀ a, (k0_off1100 k0_t13) a + S1x64.size a ≤ S64x64.size a
  k0_off1102_inb : ∀ k0_t13 : Fin k0_t13_loop.trips, ∀ a, (k0_off1102 k0_t13) a + S1x64.size a ≤ S64x64.size a
  k0_off1103_inb : ∀ k0_t13 : Fin k0_t13_loop.trips, ∀ a, (k0_off1103 k0_t13) a + S1x64.size a ≤ S320x64.size a
  k0_off1105_inb : ∀ k0_t13 : Fin k0_t13_loop.trips, ∀ (r : Fin 2), ∀ a, (k0_off1105 k0_t13 (BitVec.ofNat 32 r.val)) a + S1x64.size a ≤ S320x64.size a
  k0_off1107_inb : ∀ k0_t13 : Fin k0_t13_loop.trips, ∀ (r : Fin 2), ∀ a, (k0_off1107 k0_t13 (BitVec.ofNat 32 (1 + r.val))) a + S1x64.size a ≤ S320x64.size a
  k0_off1109_inb : ∀ k0_t13 : Fin k0_t13_loop.trips, ∀ (r : Fin 2), ∀ a, (k0_off1109 k0_t13 (BitVec.ofNat 32 (2 + r.val))) a + S1x64.size a ≤ S320x64.size a
  k0_off1111_inb : ∀ k0_t13 : Fin k0_t13_loop.trips, ∀ (r : Fin 2), ∀ a, (k0_off1111 k0_t13 (BitVec.ofNat 32 (3 + r.val))) a + S1x64.size a ≤ S320x64.size a
  k0_off1113_inb : ∀ k0_t13 : Fin k0_t13_loop.trips, ∀ a, (k0_off1113 k0_t13) a + S1x64.size a ≤ S320x64.size a
  k0_off1114_inb : ∀ k0_t13 : Fin k0_t13_loop.trips, ∀ a, (k0_off1114 k0_t13) a + S1x64.size a ≤ S64x64.size a
  k0_off1116_inb : ∀ k0_t13 : Fin k0_t13_loop.trips, ∀ a, (k0_off1116 k0_t13) a + S1x64.size a ≤ S64x64.size a
  k0_off1117_inb : ∀ k0_t13 : Fin k0_t13_loop.trips, ∀ a, (k0_off1117 k0_t13) a + S1x64.size a ≤ S320x64.size a
  k0_off1119_inb : ∀ k0_t13 : Fin k0_t13_loop.trips, ∀ (r : Fin 2), ∀ a, (k0_off1119 k0_t13 (BitVec.ofNat 32 r.val)) a + S1x64.size a ≤ S320x64.size a
  k0_off1121_inb : ∀ k0_t13 : Fin k0_t13_loop.trips, ∀ (r : Fin 2), ∀ a, (k0_off1121 k0_t13 (BitVec.ofNat 32 (1 + r.val))) a + S1x64.size a ≤ S320x64.size a
  k0_off1123_inb : ∀ k0_t13 : Fin k0_t13_loop.trips, ∀ (r : Fin 2), ∀ a, (k0_off1123 k0_t13 (BitVec.ofNat 32 (2 + r.val))) a + S1x64.size a ≤ S320x64.size a
  k0_off1125_inb : ∀ k0_t13 : Fin k0_t13_loop.trips, ∀ (r : Fin 2), ∀ a, (k0_off1125 k0_t13 (BitVec.ofNat 32 (3 + r.val))) a + S1x64.size a ≤ S320x64.size a
  k0_off1127_inb : ∀ k0_t13 : Fin k0_t13_loop.trips, ∀ a, (k0_off1127 k0_t13) a + S1x64.size a ≤ S320x64.size a
  k0_off1128_inb : ∀ k0_t13 : Fin k0_t13_loop.trips, ∀ a, (k0_off1128 k0_t13) a + S1x64.size a ≤ S64x64.size a
  k0_off1130_inb : ∀ k0_t13 : Fin k0_t13_loop.trips, ∀ a, (k0_off1130 k0_t13) a + S1x64.size a ≤ S64x64.size a
  k0_off1131_inb : ∀ k0_t13 : Fin k0_t13_loop.trips, ∀ a, (k0_off1131 k0_t13) a + S1x64.size a ≤ S320x64.size a
  k0_off1133_inb : ∀ k0_t13 : Fin k0_t13_loop.trips, ∀ (r : Fin 2), ∀ a, (k0_off1133 k0_t13 (BitVec.ofNat 32 r.val)) a + S1x64.size a ≤ S320x64.size a
  k0_off1135_inb : ∀ k0_t13 : Fin k0_t13_loop.trips, ∀ (r : Fin 2), ∀ a, (k0_off1135 k0_t13 (BitVec.ofNat 32 (1 + r.val))) a + S1x64.size a ≤ S320x64.size a
  k0_off1137_inb : ∀ k0_t13 : Fin k0_t13_loop.trips, ∀ (r : Fin 2), ∀ a, (k0_off1137 k0_t13 (BitVec.ofNat 32 (2 + r.val))) a + S1x64.size a ≤ S320x64.size a
  k0_off1139_inb : ∀ k0_t13 : Fin k0_t13_loop.trips, ∀ (r : Fin 2), ∀ a, (k0_off1139 k0_t13 (BitVec.ofNat 32 (3 + r.val))) a + S1x64.size a ≤ S320x64.size a
  k0_off1141_inb : ∀ k0_t13 : Fin k0_t13_loop.trips, ∀ a, (k0_off1141 k0_t13) a + S1x64.size a ≤ S320x64.size a
  k0_off1142_inb : ∀ k0_t13 : Fin k0_t13_loop.trips, ∀ a, (k0_off1142 k0_t13) a + S1x64.size a ≤ S64x64.size a
  k0_off1144_inb : ∀ k0_t13 : Fin k0_t13_loop.trips, ∀ a, (k0_off1144 k0_t13) a + S1x64.size a ≤ S64x64.size a
  k0_off1145_inb : ∀ k0_t13 : Fin k0_t13_loop.trips, ∀ a, (k0_off1145 k0_t13) a + S1x64.size a ≤ S320x64.size a
  k0_off1147_inb : ∀ k0_t13 : Fin k0_t13_loop.trips, ∀ (r : Fin 2), ∀ a, (k0_off1147 k0_t13 (BitVec.ofNat 32 r.val)) a + S1x64.size a ≤ S320x64.size a
  k0_off1149_inb : ∀ k0_t13 : Fin k0_t13_loop.trips, ∀ (r : Fin 2), ∀ a, (k0_off1149 k0_t13 (BitVec.ofNat 32 (1 + r.val))) a + S1x64.size a ≤ S320x64.size a
  k0_off1151_inb : ∀ k0_t13 : Fin k0_t13_loop.trips, ∀ (r : Fin 2), ∀ a, (k0_off1151 k0_t13 (BitVec.ofNat 32 (2 + r.val))) a + S1x64.size a ≤ S320x64.size a
  k0_off1153_inb : ∀ k0_t13 : Fin k0_t13_loop.trips, ∀ (r : Fin 2), ∀ a, (k0_off1153 k0_t13 (BitVec.ofNat 32 (3 + r.val))) a + S1x64.size a ≤ S320x64.size a
  k0_off1155_inb : ∀ k0_t13 : Fin k0_t13_loop.trips, ∀ a, (k0_off1155 k0_t13) a + S1x64.size a ≤ S320x64.size a
  k0_off1156_inb : ∀ k0_t13 : Fin k0_t13_loop.trips, ∀ a, (k0_off1156 k0_t13) a + S1x64.size a ≤ S64x64.size a
  k0_off1158_inb : ∀ k0_t13 : Fin k0_t13_loop.trips, ∀ a, (k0_off1158 k0_t13) a + S1x64.size a ≤ S64x64.size a
  k0_off1159_inb : ∀ k0_t13 : Fin k0_t13_loop.trips, ∀ a, (k0_off1159 k0_t13) a + S1x64.size a ≤ S320x64.size a
  k0_off1161_inb : ∀ k0_t13 : Fin k0_t13_loop.trips, ∀ (r : Fin 2), ∀ a, (k0_off1161 k0_t13 (BitVec.ofNat 32 r.val)) a + S1x64.size a ≤ S320x64.size a
  k0_off1163_inb : ∀ k0_t13 : Fin k0_t13_loop.trips, ∀ (r : Fin 2), ∀ a, (k0_off1163 k0_t13 (BitVec.ofNat 32 (1 + r.val))) a + S1x64.size a ≤ S320x64.size a
  k0_off1165_inb : ∀ k0_t13 : Fin k0_t13_loop.trips, ∀ (r : Fin 2), ∀ a, (k0_off1165 k0_t13 (BitVec.ofNat 32 (2 + r.val))) a + S1x64.size a ≤ S320x64.size a
  k0_off1167_inb : ∀ k0_t13 : Fin k0_t13_loop.trips, ∀ (r : Fin 2), ∀ a, (k0_off1167 k0_t13 (BitVec.ofNat 32 (3 + r.val))) a + S1x64.size a ≤ S320x64.size a
  k0_off1169_inb : ∀ k0_t13 : Fin k0_t13_loop.trips, ∀ a, (k0_off1169 k0_t13) a + S1x64.size a ≤ S320x64.size a
  k0_t14_ok : k0_t14_loop.OK
  k0_t15_ok : k0_t15_loop.OK
  k0_off1170_inb : ∀ k0_t15 : Fin k0_t15_loop.trips, ∀ a, (k0_off1170 k0_t15) a + S1x16.size a ≤ S64x64.size a
  k0_off1171_inb : ∀ k0_t15 : Fin k0_t15_loop.trips, ∀ a, (k0_off1171 k0_t15) a + S1x16.size a ≤ S64x64.size a
  k0_off1172_inb : ∀ k0_t15 : Fin k0_t15_loop.trips, ∀ a, (k0_off1172 k0_t15) a + S1x16.size a ≤ S64x64.size a
  k0_off1173_inb : ∀ k0_t15 : Fin k0_t15_loop.trips, ∀ a, (k0_off1173 k0_t15) a + S1x16.size a ≤ S64x64.size a
  k0_off1174_inb : ∀ k0_t15 : Fin k0_t15_loop.trips, ∀ (r : Fin 5), ∀ a, (k0_off1174 k0_t15 (BitVec.ofNat 32 r.val)) a + S1x16.size a ≤ S320x64.size a
  k0_off1175_inb : ∀ k0_t15 : Fin k0_t15_loop.trips, ∀ (r : Fin 5), ∀ a, (k0_off1175 k0_t15 (BitVec.ofNat 32 r.val)) a + S1x16.size a ≤ S320x64.size a
  k0_off1176_inb : ∀ k0_t15 : Fin k0_t15_loop.trips, ∀ (r : Fin 5), ∀ a, (k0_off1176 k0_t15 (BitVec.ofNat 32 r.val)) a + S1x16.size a ≤ S320x64.size a
  k0_off1177_inb : ∀ k0_t15 : Fin k0_t15_loop.trips, ∀ (r : Fin 5), ∀ a, (k0_off1177 k0_t15 (BitVec.ofNat 32 r.val)) a + S1x16.size a ≤ S320x64.size a
  k0_off1178_inb : ∀ k0_t15 : Fin k0_t15_loop.trips, ∀ (r : Fin 5), ∀ a, (k0_off1178 k0_t15 (BitVec.ofNat 32 (16 * r.val))) a + S16.size a ≤ S40960.size a
  k0_t16_ok : k0_t16_loop.OK
  k0_off1179_inb : ∀ k0_t16 : Fin k0_t16_loop.trips, ∀ a, (k0_off1179 k0_t16) a + S16.size a ≤ S512.size a
  k0_off1180_inb : ∀ k0_t16 : Fin k0_t16_loop.trips, ∀ (r : Fin 5), ∀ a, (k0_off1180 k0_t16 (BitVec.ofNat 32 (16 * r.val))) a + S16.size a ≤ S2560.size a
  k0_off1181_inb : ∀ k0_t16 : Fin k0_t16_loop.trips, ∀ a, (k0_off1181 k0_t16) a + S1x64.size a ≤ S64x64.size a
  k0_off1183_inb : ∀ k0_t16 : Fin k0_t16_loop.trips, ∀ a, (k0_off1183 k0_t16) a + S1x64.size a ≤ S64x64.size a
  k0_off1184_inb : ∀ k0_t16 : Fin k0_t16_loop.trips, ∀ a, (k0_off1184 k0_t16) a + S1x64.size a ≤ S320x64.size a
  k0_off1186_inb : ∀ k0_t16 : Fin k0_t16_loop.trips, ∀ (r : Fin 2), ∀ a, (k0_off1186 k0_t16 (BitVec.ofNat 32 r.val)) a + S1x64.size a ≤ S320x64.size a
  k0_off1188_inb : ∀ k0_t16 : Fin k0_t16_loop.trips, ∀ (r : Fin 2), ∀ a, (k0_off1188 k0_t16 (BitVec.ofNat 32 (1 + r.val))) a + S1x64.size a ≤ S320x64.size a
  k0_off1190_inb : ∀ k0_t16 : Fin k0_t16_loop.trips, ∀ (r : Fin 2), ∀ a, (k0_off1190 k0_t16 (BitVec.ofNat 32 (2 + r.val))) a + S1x64.size a ≤ S320x64.size a
  k0_off1192_inb : ∀ k0_t16 : Fin k0_t16_loop.trips, ∀ (r : Fin 2), ∀ a, (k0_off1192 k0_t16 (BitVec.ofNat 32 (3 + r.val))) a + S1x64.size a ≤ S320x64.size a
  k0_off1194_inb : ∀ k0_t16 : Fin k0_t16_loop.trips, ∀ a, (k0_off1194 k0_t16) a + S1x64.size a ≤ S320x64.size a
  k0_off1195_inb : ∀ k0_t16 : Fin k0_t16_loop.trips, ∀ a, (k0_off1195 k0_t16) a + S1x64.size a ≤ S64x64.size a
  k0_off1197_inb : ∀ k0_t16 : Fin k0_t16_loop.trips, ∀ a, (k0_off1197 k0_t16) a + S1x64.size a ≤ S64x64.size a
  k0_off1198_inb : ∀ k0_t16 : Fin k0_t16_loop.trips, ∀ a, (k0_off1198 k0_t16) a + S1x64.size a ≤ S320x64.size a
  k0_off1200_inb : ∀ k0_t16 : Fin k0_t16_loop.trips, ∀ (r : Fin 2), ∀ a, (k0_off1200 k0_t16 (BitVec.ofNat 32 r.val)) a + S1x64.size a ≤ S320x64.size a
  k0_off1202_inb : ∀ k0_t16 : Fin k0_t16_loop.trips, ∀ (r : Fin 2), ∀ a, (k0_off1202 k0_t16 (BitVec.ofNat 32 (1 + r.val))) a + S1x64.size a ≤ S320x64.size a
  k0_off1204_inb : ∀ k0_t16 : Fin k0_t16_loop.trips, ∀ (r : Fin 2), ∀ a, (k0_off1204 k0_t16 (BitVec.ofNat 32 (2 + r.val))) a + S1x64.size a ≤ S320x64.size a
  k0_off1206_inb : ∀ k0_t16 : Fin k0_t16_loop.trips, ∀ (r : Fin 2), ∀ a, (k0_off1206 k0_t16 (BitVec.ofNat 32 (3 + r.val))) a + S1x64.size a ≤ S320x64.size a
  k0_off1208_inb : ∀ k0_t16 : Fin k0_t16_loop.trips, ∀ a, (k0_off1208 k0_t16) a + S1x64.size a ≤ S320x64.size a
  k0_off1209_inb : ∀ k0_t16 : Fin k0_t16_loop.trips, ∀ a, (k0_off1209 k0_t16) a + S1x64.size a ≤ S64x64.size a
  k0_off1211_inb : ∀ k0_t16 : Fin k0_t16_loop.trips, ∀ a, (k0_off1211 k0_t16) a + S1x64.size a ≤ S64x64.size a
  k0_off1212_inb : ∀ k0_t16 : Fin k0_t16_loop.trips, ∀ a, (k0_off1212 k0_t16) a + S1x64.size a ≤ S320x64.size a
  k0_off1214_inb : ∀ k0_t16 : Fin k0_t16_loop.trips, ∀ (r : Fin 2), ∀ a, (k0_off1214 k0_t16 (BitVec.ofNat 32 r.val)) a + S1x64.size a ≤ S320x64.size a
  k0_off1216_inb : ∀ k0_t16 : Fin k0_t16_loop.trips, ∀ (r : Fin 2), ∀ a, (k0_off1216 k0_t16 (BitVec.ofNat 32 (1 + r.val))) a + S1x64.size a ≤ S320x64.size a
  k0_off1218_inb : ∀ k0_t16 : Fin k0_t16_loop.trips, ∀ (r : Fin 2), ∀ a, (k0_off1218 k0_t16 (BitVec.ofNat 32 (2 + r.val))) a + S1x64.size a ≤ S320x64.size a
  k0_off1220_inb : ∀ k0_t16 : Fin k0_t16_loop.trips, ∀ (r : Fin 2), ∀ a, (k0_off1220 k0_t16 (BitVec.ofNat 32 (3 + r.val))) a + S1x64.size a ≤ S320x64.size a
  k0_off1222_inb : ∀ k0_t16 : Fin k0_t16_loop.trips, ∀ a, (k0_off1222 k0_t16) a + S1x64.size a ≤ S320x64.size a
  k0_off1223_inb : ∀ k0_t16 : Fin k0_t16_loop.trips, ∀ a, (k0_off1223 k0_t16) a + S1x64.size a ≤ S64x64.size a
  k0_off1225_inb : ∀ k0_t16 : Fin k0_t16_loop.trips, ∀ a, (k0_off1225 k0_t16) a + S1x64.size a ≤ S64x64.size a
  k0_off1226_inb : ∀ k0_t16 : Fin k0_t16_loop.trips, ∀ a, (k0_off1226 k0_t16) a + S1x64.size a ≤ S320x64.size a
  k0_off1228_inb : ∀ k0_t16 : Fin k0_t16_loop.trips, ∀ (r : Fin 2), ∀ a, (k0_off1228 k0_t16 (BitVec.ofNat 32 r.val)) a + S1x64.size a ≤ S320x64.size a
  k0_off1230_inb : ∀ k0_t16 : Fin k0_t16_loop.trips, ∀ (r : Fin 2), ∀ a, (k0_off1230 k0_t16 (BitVec.ofNat 32 (1 + r.val))) a + S1x64.size a ≤ S320x64.size a
  k0_off1232_inb : ∀ k0_t16 : Fin k0_t16_loop.trips, ∀ (r : Fin 2), ∀ a, (k0_off1232 k0_t16 (BitVec.ofNat 32 (2 + r.val))) a + S1x64.size a ≤ S320x64.size a
  k0_off1234_inb : ∀ k0_t16 : Fin k0_t16_loop.trips, ∀ (r : Fin 2), ∀ a, (k0_off1234 k0_t16 (BitVec.ofNat 32 (3 + r.val))) a + S1x64.size a ≤ S320x64.size a
  k0_off1236_inb : ∀ k0_t16 : Fin k0_t16_loop.trips, ∀ a, (k0_off1236 k0_t16) a + S1x64.size a ≤ S320x64.size a
  k0_off1237_inb : ∀ k0_t16 : Fin k0_t16_loop.trips, ∀ a, (k0_off1237 k0_t16) a + S1x64.size a ≤ S64x64.size a
  k0_off1239_inb : ∀ k0_t16 : Fin k0_t16_loop.trips, ∀ a, (k0_off1239 k0_t16) a + S1x64.size a ≤ S64x64.size a
  k0_off1240_inb : ∀ k0_t16 : Fin k0_t16_loop.trips, ∀ a, (k0_off1240 k0_t16) a + S1x64.size a ≤ S320x64.size a
  k0_off1242_inb : ∀ k0_t16 : Fin k0_t16_loop.trips, ∀ (r : Fin 2), ∀ a, (k0_off1242 k0_t16 (BitVec.ofNat 32 r.val)) a + S1x64.size a ≤ S320x64.size a
  k0_off1244_inb : ∀ k0_t16 : Fin k0_t16_loop.trips, ∀ (r : Fin 2), ∀ a, (k0_off1244 k0_t16 (BitVec.ofNat 32 (1 + r.val))) a + S1x64.size a ≤ S320x64.size a
  k0_off1246_inb : ∀ k0_t16 : Fin k0_t16_loop.trips, ∀ (r : Fin 2), ∀ a, (k0_off1246 k0_t16 (BitVec.ofNat 32 (2 + r.val))) a + S1x64.size a ≤ S320x64.size a
  k0_off1248_inb : ∀ k0_t16 : Fin k0_t16_loop.trips, ∀ (r : Fin 2), ∀ a, (k0_off1248 k0_t16 (BitVec.ofNat 32 (3 + r.val))) a + S1x64.size a ≤ S320x64.size a
  k0_off1250_inb : ∀ k0_t16 : Fin k0_t16_loop.trips, ∀ a, (k0_off1250 k0_t16) a + S1x64.size a ≤ S320x64.size a
  k0_off1251_inb : ∀ k0_t16 : Fin k0_t16_loop.trips, ∀ a, (k0_off1251 k0_t16) a + S1x64.size a ≤ S64x64.size a
  k0_off1253_inb : ∀ k0_t16 : Fin k0_t16_loop.trips, ∀ a, (k0_off1253 k0_t16) a + S1x64.size a ≤ S64x64.size a
  k0_off1254_inb : ∀ k0_t16 : Fin k0_t16_loop.trips, ∀ a, (k0_off1254 k0_t16) a + S1x64.size a ≤ S320x64.size a
  k0_off1256_inb : ∀ k0_t16 : Fin k0_t16_loop.trips, ∀ (r : Fin 2), ∀ a, (k0_off1256 k0_t16 (BitVec.ofNat 32 r.val)) a + S1x64.size a ≤ S320x64.size a
  k0_off1258_inb : ∀ k0_t16 : Fin k0_t16_loop.trips, ∀ (r : Fin 2), ∀ a, (k0_off1258 k0_t16 (BitVec.ofNat 32 (1 + r.val))) a + S1x64.size a ≤ S320x64.size a
  k0_off1260_inb : ∀ k0_t16 : Fin k0_t16_loop.trips, ∀ (r : Fin 2), ∀ a, (k0_off1260 k0_t16 (BitVec.ofNat 32 (2 + r.val))) a + S1x64.size a ≤ S320x64.size a
  k0_off1262_inb : ∀ k0_t16 : Fin k0_t16_loop.trips, ∀ (r : Fin 2), ∀ a, (k0_off1262 k0_t16 (BitVec.ofNat 32 (3 + r.val))) a + S1x64.size a ≤ S320x64.size a
  k0_off1264_inb : ∀ k0_t16 : Fin k0_t16_loop.trips, ∀ a, (k0_off1264 k0_t16) a + S1x64.size a ≤ S320x64.size a
  k0_off1265_inb : ∀ k0_t16 : Fin k0_t16_loop.trips, ∀ a, (k0_off1265 k0_t16) a + S1x64.size a ≤ S64x64.size a
  k0_off1267_inb : ∀ k0_t16 : Fin k0_t16_loop.trips, ∀ a, (k0_off1267 k0_t16) a + S1x64.size a ≤ S64x64.size a
  k0_off1268_inb : ∀ k0_t16 : Fin k0_t16_loop.trips, ∀ a, (k0_off1268 k0_t16) a + S1x64.size a ≤ S320x64.size a
  k0_off1270_inb : ∀ k0_t16 : Fin k0_t16_loop.trips, ∀ (r : Fin 2), ∀ a, (k0_off1270 k0_t16 (BitVec.ofNat 32 r.val)) a + S1x64.size a ≤ S320x64.size a
  k0_off1272_inb : ∀ k0_t16 : Fin k0_t16_loop.trips, ∀ (r : Fin 2), ∀ a, (k0_off1272 k0_t16 (BitVec.ofNat 32 (1 + r.val))) a + S1x64.size a ≤ S320x64.size a
  k0_off1274_inb : ∀ k0_t16 : Fin k0_t16_loop.trips, ∀ (r : Fin 2), ∀ a, (k0_off1274 k0_t16 (BitVec.ofNat 32 (2 + r.val))) a + S1x64.size a ≤ S320x64.size a
  k0_off1276_inb : ∀ k0_t16 : Fin k0_t16_loop.trips, ∀ (r : Fin 2), ∀ a, (k0_off1276 k0_t16 (BitVec.ofNat 32 (3 + r.val))) a + S1x64.size a ≤ S320x64.size a
  k0_off1278_inb : ∀ k0_t16 : Fin k0_t16_loop.trips, ∀ a, (k0_off1278 k0_t16) a + S1x64.size a ≤ S320x64.size a
  k0_off1279_inb : ∀ k0_t16 : Fin k0_t16_loop.trips, ∀ a, (k0_off1279 k0_t16) a + S1x64.size a ≤ S64x64.size a
  k0_off1281_inb : ∀ k0_t16 : Fin k0_t16_loop.trips, ∀ a, (k0_off1281 k0_t16) a + S1x64.size a ≤ S64x64.size a
  k0_off1282_inb : ∀ k0_t16 : Fin k0_t16_loop.trips, ∀ a, (k0_off1282 k0_t16) a + S1x64.size a ≤ S320x64.size a
  k0_off1284_inb : ∀ k0_t16 : Fin k0_t16_loop.trips, ∀ (r : Fin 2), ∀ a, (k0_off1284 k0_t16 (BitVec.ofNat 32 r.val)) a + S1x64.size a ≤ S320x64.size a
  k0_off1286_inb : ∀ k0_t16 : Fin k0_t16_loop.trips, ∀ (r : Fin 2), ∀ a, (k0_off1286 k0_t16 (BitVec.ofNat 32 (1 + r.val))) a + S1x64.size a ≤ S320x64.size a
  k0_off1288_inb : ∀ k0_t16 : Fin k0_t16_loop.trips, ∀ (r : Fin 2), ∀ a, (k0_off1288 k0_t16 (BitVec.ofNat 32 (2 + r.val))) a + S1x64.size a ≤ S320x64.size a
  k0_off1290_inb : ∀ k0_t16 : Fin k0_t16_loop.trips, ∀ (r : Fin 2), ∀ a, (k0_off1290 k0_t16 (BitVec.ofNat 32 (3 + r.val))) a + S1x64.size a ≤ S320x64.size a
  k0_off1292_inb : ∀ k0_t16 : Fin k0_t16_loop.trips, ∀ a, (k0_off1292 k0_t16) a + S1x64.size a ≤ S320x64.size a
  k0_off1293_inb : ∀ k0_t16 : Fin k0_t16_loop.trips, ∀ a, (k0_off1293 k0_t16) a + S1x64.size a ≤ S64x64.size a
  k0_off1295_inb : ∀ k0_t16 : Fin k0_t16_loop.trips, ∀ a, (k0_off1295 k0_t16) a + S1x64.size a ≤ S64x64.size a
  k0_off1296_inb : ∀ k0_t16 : Fin k0_t16_loop.trips, ∀ a, (k0_off1296 k0_t16) a + S1x64.size a ≤ S320x64.size a
  k0_off1298_inb : ∀ k0_t16 : Fin k0_t16_loop.trips, ∀ (r : Fin 2), ∀ a, (k0_off1298 k0_t16 (BitVec.ofNat 32 r.val)) a + S1x64.size a ≤ S320x64.size a
  k0_off1300_inb : ∀ k0_t16 : Fin k0_t16_loop.trips, ∀ (r : Fin 2), ∀ a, (k0_off1300 k0_t16 (BitVec.ofNat 32 (1 + r.val))) a + S1x64.size a ≤ S320x64.size a
  k0_off1302_inb : ∀ k0_t16 : Fin k0_t16_loop.trips, ∀ (r : Fin 2), ∀ a, (k0_off1302 k0_t16 (BitVec.ofNat 32 (2 + r.val))) a + S1x64.size a ≤ S320x64.size a
  k0_off1304_inb : ∀ k0_t16 : Fin k0_t16_loop.trips, ∀ (r : Fin 2), ∀ a, (k0_off1304 k0_t16 (BitVec.ofNat 32 (3 + r.val))) a + S1x64.size a ≤ S320x64.size a
  k0_off1306_inb : ∀ k0_t16 : Fin k0_t16_loop.trips, ∀ a, (k0_off1306 k0_t16) a + S1x64.size a ≤ S320x64.size a
  k0_off1307_inb : ∀ k0_t16 : Fin k0_t16_loop.trips, ∀ a, (k0_off1307 k0_t16) a + S1x64.size a ≤ S64x64.size a
  k0_off1309_inb : ∀ k0_t16 : Fin k0_t16_loop.trips, ∀ a, (k0_off1309 k0_t16) a + S1x64.size a ≤ S64x64.size a
  k0_off1310_inb : ∀ k0_t16 : Fin k0_t16_loop.trips, ∀ a, (k0_off1310 k0_t16) a + S1x64.size a ≤ S320x64.size a
  k0_off1312_inb : ∀ k0_t16 : Fin k0_t16_loop.trips, ∀ (r : Fin 2), ∀ a, (k0_off1312 k0_t16 (BitVec.ofNat 32 r.val)) a + S1x64.size a ≤ S320x64.size a
  k0_off1314_inb : ∀ k0_t16 : Fin k0_t16_loop.trips, ∀ (r : Fin 2), ∀ a, (k0_off1314 k0_t16 (BitVec.ofNat 32 (1 + r.val))) a + S1x64.size a ≤ S320x64.size a
  k0_off1316_inb : ∀ k0_t16 : Fin k0_t16_loop.trips, ∀ (r : Fin 2), ∀ a, (k0_off1316 k0_t16 (BitVec.ofNat 32 (2 + r.val))) a + S1x64.size a ≤ S320x64.size a
  k0_off1318_inb : ∀ k0_t16 : Fin k0_t16_loop.trips, ∀ (r : Fin 2), ∀ a, (k0_off1318 k0_t16 (BitVec.ofNat 32 (3 + r.val))) a + S1x64.size a ≤ S320x64.size a
  k0_off1320_inb : ∀ k0_t16 : Fin k0_t16_loop.trips, ∀ a, (k0_off1320 k0_t16) a + S1x64.size a ≤ S320x64.size a
  k0_off1321_inb : ∀ k0_t16 : Fin k0_t16_loop.trips, ∀ a, (k0_off1321 k0_t16) a + S1x64.size a ≤ S64x64.size a
  k0_off1323_inb : ∀ k0_t16 : Fin k0_t16_loop.trips, ∀ a, (k0_off1323 k0_t16) a + S1x64.size a ≤ S64x64.size a
  k0_off1324_inb : ∀ k0_t16 : Fin k0_t16_loop.trips, ∀ a, (k0_off1324 k0_t16) a + S1x64.size a ≤ S320x64.size a
  k0_off1326_inb : ∀ k0_t16 : Fin k0_t16_loop.trips, ∀ (r : Fin 2), ∀ a, (k0_off1326 k0_t16 (BitVec.ofNat 32 r.val)) a + S1x64.size a ≤ S320x64.size a
  k0_off1328_inb : ∀ k0_t16 : Fin k0_t16_loop.trips, ∀ (r : Fin 2), ∀ a, (k0_off1328 k0_t16 (BitVec.ofNat 32 (1 + r.val))) a + S1x64.size a ≤ S320x64.size a
  k0_off1330_inb : ∀ k0_t16 : Fin k0_t16_loop.trips, ∀ (r : Fin 2), ∀ a, (k0_off1330 k0_t16 (BitVec.ofNat 32 (2 + r.val))) a + S1x64.size a ≤ S320x64.size a
  k0_off1332_inb : ∀ k0_t16 : Fin k0_t16_loop.trips, ∀ (r : Fin 2), ∀ a, (k0_off1332 k0_t16 (BitVec.ofNat 32 (3 + r.val))) a + S1x64.size a ≤ S320x64.size a
  k0_off1334_inb : ∀ k0_t16 : Fin k0_t16_loop.trips, ∀ a, (k0_off1334 k0_t16) a + S1x64.size a ≤ S320x64.size a
  k0_off1335_inb : ∀ k0_t16 : Fin k0_t16_loop.trips, ∀ a, (k0_off1335 k0_t16) a + S1x64.size a ≤ S64x64.size a
  k0_off1337_inb : ∀ k0_t16 : Fin k0_t16_loop.trips, ∀ a, (k0_off1337 k0_t16) a + S1x64.size a ≤ S64x64.size a
  k0_off1338_inb : ∀ k0_t16 : Fin k0_t16_loop.trips, ∀ a, (k0_off1338 k0_t16) a + S1x64.size a ≤ S320x64.size a
  k0_off1340_inb : ∀ k0_t16 : Fin k0_t16_loop.trips, ∀ (r : Fin 2), ∀ a, (k0_off1340 k0_t16 (BitVec.ofNat 32 r.val)) a + S1x64.size a ≤ S320x64.size a
  k0_off1342_inb : ∀ k0_t16 : Fin k0_t16_loop.trips, ∀ (r : Fin 2), ∀ a, (k0_off1342 k0_t16 (BitVec.ofNat 32 (1 + r.val))) a + S1x64.size a ≤ S320x64.size a
  k0_off1344_inb : ∀ k0_t16 : Fin k0_t16_loop.trips, ∀ (r : Fin 2), ∀ a, (k0_off1344 k0_t16 (BitVec.ofNat 32 (2 + r.val))) a + S1x64.size a ≤ S320x64.size a
  k0_off1346_inb : ∀ k0_t16 : Fin k0_t16_loop.trips, ∀ (r : Fin 2), ∀ a, (k0_off1346 k0_t16 (BitVec.ofNat 32 (3 + r.val))) a + S1x64.size a ≤ S320x64.size a
  k0_off1348_inb : ∀ k0_t16 : Fin k0_t16_loop.trips, ∀ a, (k0_off1348 k0_t16) a + S1x64.size a ≤ S320x64.size a
  k0_off1349_inb : ∀ k0_t16 : Fin k0_t16_loop.trips, ∀ a, (k0_off1349 k0_t16) a + S1x64.size a ≤ S64x64.size a
  k0_off1351_inb : ∀ k0_t16 : Fin k0_t16_loop.trips, ∀ a, (k0_off1351 k0_t16) a + S1x64.size a ≤ S64x64.size a
  k0_off1352_inb : ∀ k0_t16 : Fin k0_t16_loop.trips, ∀ a, (k0_off1352 k0_t16) a + S1x64.size a ≤ S320x64.size a
  k0_off1354_inb : ∀ k0_t16 : Fin k0_t16_loop.trips, ∀ (r : Fin 2), ∀ a, (k0_off1354 k0_t16 (BitVec.ofNat 32 r.val)) a + S1x64.size a ≤ S320x64.size a
  k0_off1356_inb : ∀ k0_t16 : Fin k0_t16_loop.trips, ∀ (r : Fin 2), ∀ a, (k0_off1356 k0_t16 (BitVec.ofNat 32 (1 + r.val))) a + S1x64.size a ≤ S320x64.size a
  k0_off1358_inb : ∀ k0_t16 : Fin k0_t16_loop.trips, ∀ (r : Fin 2), ∀ a, (k0_off1358 k0_t16 (BitVec.ofNat 32 (2 + r.val))) a + S1x64.size a ≤ S320x64.size a
  k0_off1360_inb : ∀ k0_t16 : Fin k0_t16_loop.trips, ∀ (r : Fin 2), ∀ a, (k0_off1360 k0_t16 (BitVec.ofNat 32 (3 + r.val))) a + S1x64.size a ≤ S320x64.size a
  k0_off1362_inb : ∀ k0_t16 : Fin k0_t16_loop.trips, ∀ a, (k0_off1362 k0_t16) a + S1x64.size a ≤ S320x64.size a
  k0_off1363_inb : ∀ k0_t16 : Fin k0_t16_loop.trips, ∀ a, (k0_off1363 k0_t16) a + S1x64.size a ≤ S64x64.size a
  k0_off1365_inb : ∀ k0_t16 : Fin k0_t16_loop.trips, ∀ a, (k0_off1365 k0_t16) a + S1x64.size a ≤ S64x64.size a
  k0_off1366_inb : ∀ k0_t16 : Fin k0_t16_loop.trips, ∀ a, (k0_off1366 k0_t16) a + S1x64.size a ≤ S320x64.size a
  k0_off1368_inb : ∀ k0_t16 : Fin k0_t16_loop.trips, ∀ (r : Fin 2), ∀ a, (k0_off1368 k0_t16 (BitVec.ofNat 32 r.val)) a + S1x64.size a ≤ S320x64.size a
  k0_off1370_inb : ∀ k0_t16 : Fin k0_t16_loop.trips, ∀ (r : Fin 2), ∀ a, (k0_off1370 k0_t16 (BitVec.ofNat 32 (1 + r.val))) a + S1x64.size a ≤ S320x64.size a
  k0_off1372_inb : ∀ k0_t16 : Fin k0_t16_loop.trips, ∀ (r : Fin 2), ∀ a, (k0_off1372 k0_t16 (BitVec.ofNat 32 (2 + r.val))) a + S1x64.size a ≤ S320x64.size a
  k0_off1374_inb : ∀ k0_t16 : Fin k0_t16_loop.trips, ∀ (r : Fin 2), ∀ a, (k0_off1374 k0_t16 (BitVec.ofNat 32 (3 + r.val))) a + S1x64.size a ≤ S320x64.size a
  k0_off1376_inb : ∀ k0_t16 : Fin k0_t16_loop.trips, ∀ a, (k0_off1376 k0_t16) a + S1x64.size a ≤ S320x64.size a
  k0_off1377_inb : ∀ k0_t16 : Fin k0_t16_loop.trips, ∀ a, (k0_off1377 k0_t16) a + S1x64.size a ≤ S64x64.size a
  k0_off1379_inb : ∀ k0_t16 : Fin k0_t16_loop.trips, ∀ a, (k0_off1379 k0_t16) a + S1x64.size a ≤ S64x64.size a
  k0_off1380_inb : ∀ k0_t16 : Fin k0_t16_loop.trips, ∀ a, (k0_off1380 k0_t16) a + S1x64.size a ≤ S320x64.size a
  k0_off1382_inb : ∀ k0_t16 : Fin k0_t16_loop.trips, ∀ (r : Fin 2), ∀ a, (k0_off1382 k0_t16 (BitVec.ofNat 32 r.val)) a + S1x64.size a ≤ S320x64.size a
  k0_off1384_inb : ∀ k0_t16 : Fin k0_t16_loop.trips, ∀ (r : Fin 2), ∀ a, (k0_off1384 k0_t16 (BitVec.ofNat 32 (1 + r.val))) a + S1x64.size a ≤ S320x64.size a
  k0_off1386_inb : ∀ k0_t16 : Fin k0_t16_loop.trips, ∀ (r : Fin 2), ∀ a, (k0_off1386 k0_t16 (BitVec.ofNat 32 (2 + r.val))) a + S1x64.size a ≤ S320x64.size a
  k0_off1388_inb : ∀ k0_t16 : Fin k0_t16_loop.trips, ∀ (r : Fin 2), ∀ a, (k0_off1388 k0_t16 (BitVec.ofNat 32 (3 + r.val))) a + S1x64.size a ≤ S320x64.size a
  k0_off1390_inb : ∀ k0_t16 : Fin k0_t16_loop.trips, ∀ a, (k0_off1390 k0_t16) a + S1x64.size a ≤ S320x64.size a
  k0_off1391_inb : ∀ k0_t16 : Fin k0_t16_loop.trips, ∀ a, (k0_off1391 k0_t16) a + S1x64.size a ≤ S64x64.size a
  k0_off1393_inb : ∀ k0_t16 : Fin k0_t16_loop.trips, ∀ a, (k0_off1393 k0_t16) a + S1x64.size a ≤ S64x64.size a
  k0_off1394_inb : ∀ k0_t16 : Fin k0_t16_loop.trips, ∀ a, (k0_off1394 k0_t16) a + S1x64.size a ≤ S320x64.size a
  k0_off1396_inb : ∀ k0_t16 : Fin k0_t16_loop.trips, ∀ (r : Fin 2), ∀ a, (k0_off1396 k0_t16 (BitVec.ofNat 32 r.val)) a + S1x64.size a ≤ S320x64.size a
  k0_off1398_inb : ∀ k0_t16 : Fin k0_t16_loop.trips, ∀ (r : Fin 2), ∀ a, (k0_off1398 k0_t16 (BitVec.ofNat 32 (1 + r.val))) a + S1x64.size a ≤ S320x64.size a
  k0_off1400_inb : ∀ k0_t16 : Fin k0_t16_loop.trips, ∀ (r : Fin 2), ∀ a, (k0_off1400 k0_t16 (BitVec.ofNat 32 (2 + r.val))) a + S1x64.size a ≤ S320x64.size a
  k0_off1402_inb : ∀ k0_t16 : Fin k0_t16_loop.trips, ∀ (r : Fin 2), ∀ a, (k0_off1402 k0_t16 (BitVec.ofNat 32 (3 + r.val))) a + S1x64.size a ≤ S320x64.size a
  k0_off1404_inb : ∀ k0_t16 : Fin k0_t16_loop.trips, ∀ a, (k0_off1404 k0_t16) a + S1x64.size a ≤ S320x64.size a
  k0_t17_ok : k0_t17_loop.OK
  k0_t18_ok : k0_t18_loop.OK
  k0_off1405_inb : ∀ k0_t18 : Fin k0_t18_loop.trips, ∀ a, (k0_off1405 k0_t18) a + S1x16.size a ≤ S64x64.size a
  k0_off1406_inb : ∀ k0_t18 : Fin k0_t18_loop.trips, ∀ a, (k0_off1406 k0_t18) a + S1x16.size a ≤ S64x64.size a
  k0_off1407_inb : ∀ k0_t18 : Fin k0_t18_loop.trips, ∀ a, (k0_off1407 k0_t18) a + S1x16.size a ≤ S64x64.size a
  k0_off1408_inb : ∀ k0_t18 : Fin k0_t18_loop.trips, ∀ a, (k0_off1408 k0_t18) a + S1x16.size a ≤ S64x64.size a
  k0_off1409_inb : ∀ k0_t18 : Fin k0_t18_loop.trips, ∀ (r : Fin 5), ∀ a, (k0_off1409 k0_t18 (BitVec.ofNat 32 r.val)) a + S1x16.size a ≤ S320x64.size a
  k0_off1410_inb : ∀ k0_t18 : Fin k0_t18_loop.trips, ∀ (r : Fin 5), ∀ a, (k0_off1410 k0_t18 (BitVec.ofNat 32 r.val)) a + S1x16.size a ≤ S320x64.size a
  k0_off1411_inb : ∀ k0_t18 : Fin k0_t18_loop.trips, ∀ (r : Fin 5), ∀ a, (k0_off1411 k0_t18 (BitVec.ofNat 32 r.val)) a + S1x16.size a ≤ S320x64.size a
  k0_off1412_inb : ∀ k0_t18 : Fin k0_t18_loop.trips, ∀ (r : Fin 5), ∀ a, (k0_off1412 k0_t18 (BitVec.ofNat 32 r.val)) a + S1x16.size a ≤ S320x64.size a
  k0_off1413_inb : ∀ k0_t18 : Fin k0_t18_loop.trips, ∀ (r : Fin 5), ∀ a, (k0_off1413 k0_t18 (BitVec.ofNat 32 (16 * r.val))) a + S16.size a ≤ S40960.size a
  k0_t19_ok : k0_t19_loop.OK
  k0_off1414_inb : ∀ k0_t19 : Fin k0_t19_loop.trips, ∀ a, (k0_off1414 k0_t19) a + S16.size a ≤ S512.size a
  k0_off1415_inb : ∀ k0_t19 : Fin k0_t19_loop.trips, ∀ (r : Fin 5), ∀ a, (k0_off1415 k0_t19 (BitVec.ofNat 32 (16 * r.val))) a + S16.size a ≤ S2560.size a
  k0_off1416_inb : ∀ k0_t19 : Fin k0_t19_loop.trips, ∀ a, (k0_off1416 k0_t19) a + S1x64.size a ≤ S64x64.size a
  k0_off1418_inb : ∀ k0_t19 : Fin k0_t19_loop.trips, ∀ a, (k0_off1418 k0_t19) a + S1x64.size a ≤ S64x64.size a
  k0_off1419_inb : ∀ k0_t19 : Fin k0_t19_loop.trips, ∀ a, (k0_off1419 k0_t19) a + S1x64.size a ≤ S320x64.size a
  k0_off1421_inb : ∀ k0_t19 : Fin k0_t19_loop.trips, ∀ (r : Fin 2), ∀ a, (k0_off1421 k0_t19 (BitVec.ofNat 32 r.val)) a + S1x64.size a ≤ S320x64.size a
  k0_off1423_inb : ∀ k0_t19 : Fin k0_t19_loop.trips, ∀ (r : Fin 2), ∀ a, (k0_off1423 k0_t19 (BitVec.ofNat 32 (1 + r.val))) a + S1x64.size a ≤ S320x64.size a
  k0_off1425_inb : ∀ k0_t19 : Fin k0_t19_loop.trips, ∀ (r : Fin 2), ∀ a, (k0_off1425 k0_t19 (BitVec.ofNat 32 (2 + r.val))) a + S1x64.size a ≤ S320x64.size a
  k0_off1427_inb : ∀ k0_t19 : Fin k0_t19_loop.trips, ∀ (r : Fin 2), ∀ a, (k0_off1427 k0_t19 (BitVec.ofNat 32 (3 + r.val))) a + S1x64.size a ≤ S320x64.size a
  k0_off1429_inb : ∀ k0_t19 : Fin k0_t19_loop.trips, ∀ a, (k0_off1429 k0_t19) a + S1x64.size a ≤ S320x64.size a
  k0_off1430_inb : ∀ k0_t19 : Fin k0_t19_loop.trips, ∀ a, (k0_off1430 k0_t19) a + S1x64.size a ≤ S64x64.size a
  k0_off1432_inb : ∀ k0_t19 : Fin k0_t19_loop.trips, ∀ a, (k0_off1432 k0_t19) a + S1x64.size a ≤ S64x64.size a
  k0_off1433_inb : ∀ k0_t19 : Fin k0_t19_loop.trips, ∀ a, (k0_off1433 k0_t19) a + S1x64.size a ≤ S320x64.size a
  k0_off1435_inb : ∀ k0_t19 : Fin k0_t19_loop.trips, ∀ (r : Fin 2), ∀ a, (k0_off1435 k0_t19 (BitVec.ofNat 32 r.val)) a + S1x64.size a ≤ S320x64.size a
  k0_off1437_inb : ∀ k0_t19 : Fin k0_t19_loop.trips, ∀ (r : Fin 2), ∀ a, (k0_off1437 k0_t19 (BitVec.ofNat 32 (1 + r.val))) a + S1x64.size a ≤ S320x64.size a
  k0_off1439_inb : ∀ k0_t19 : Fin k0_t19_loop.trips, ∀ (r : Fin 2), ∀ a, (k0_off1439 k0_t19 (BitVec.ofNat 32 (2 + r.val))) a + S1x64.size a ≤ S320x64.size a
  k0_off1441_inb : ∀ k0_t19 : Fin k0_t19_loop.trips, ∀ (r : Fin 2), ∀ a, (k0_off1441 k0_t19 (BitVec.ofNat 32 (3 + r.val))) a + S1x64.size a ≤ S320x64.size a
  k0_off1443_inb : ∀ k0_t19 : Fin k0_t19_loop.trips, ∀ a, (k0_off1443 k0_t19) a + S1x64.size a ≤ S320x64.size a
  k0_off1444_inb : ∀ k0_t19 : Fin k0_t19_loop.trips, ∀ a, (k0_off1444 k0_t19) a + S1x64.size a ≤ S64x64.size a
  k0_off1446_inb : ∀ k0_t19 : Fin k0_t19_loop.trips, ∀ a, (k0_off1446 k0_t19) a + S1x64.size a ≤ S64x64.size a
  k0_off1447_inb : ∀ k0_t19 : Fin k0_t19_loop.trips, ∀ a, (k0_off1447 k0_t19) a + S1x64.size a ≤ S320x64.size a
  k0_off1449_inb : ∀ k0_t19 : Fin k0_t19_loop.trips, ∀ (r : Fin 2), ∀ a, (k0_off1449 k0_t19 (BitVec.ofNat 32 r.val)) a + S1x64.size a ≤ S320x64.size a
  k0_off1451_inb : ∀ k0_t19 : Fin k0_t19_loop.trips, ∀ (r : Fin 2), ∀ a, (k0_off1451 k0_t19 (BitVec.ofNat 32 (1 + r.val))) a + S1x64.size a ≤ S320x64.size a
  k0_off1453_inb : ∀ k0_t19 : Fin k0_t19_loop.trips, ∀ (r : Fin 2), ∀ a, (k0_off1453 k0_t19 (BitVec.ofNat 32 (2 + r.val))) a + S1x64.size a ≤ S320x64.size a
  k0_off1455_inb : ∀ k0_t19 : Fin k0_t19_loop.trips, ∀ (r : Fin 2), ∀ a, (k0_off1455 k0_t19 (BitVec.ofNat 32 (3 + r.val))) a + S1x64.size a ≤ S320x64.size a
  k0_off1457_inb : ∀ k0_t19 : Fin k0_t19_loop.trips, ∀ a, (k0_off1457 k0_t19) a + S1x64.size a ≤ S320x64.size a
  k0_off1458_inb : ∀ k0_t19 : Fin k0_t19_loop.trips, ∀ a, (k0_off1458 k0_t19) a + S1x64.size a ≤ S64x64.size a
  k0_off1460_inb : ∀ k0_t19 : Fin k0_t19_loop.trips, ∀ a, (k0_off1460 k0_t19) a + S1x64.size a ≤ S64x64.size a
  k0_off1461_inb : ∀ k0_t19 : Fin k0_t19_loop.trips, ∀ a, (k0_off1461 k0_t19) a + S1x64.size a ≤ S320x64.size a
  k0_off1463_inb : ∀ k0_t19 : Fin k0_t19_loop.trips, ∀ (r : Fin 2), ∀ a, (k0_off1463 k0_t19 (BitVec.ofNat 32 r.val)) a + S1x64.size a ≤ S320x64.size a
  k0_off1465_inb : ∀ k0_t19 : Fin k0_t19_loop.trips, ∀ (r : Fin 2), ∀ a, (k0_off1465 k0_t19 (BitVec.ofNat 32 (1 + r.val))) a + S1x64.size a ≤ S320x64.size a
  k0_off1467_inb : ∀ k0_t19 : Fin k0_t19_loop.trips, ∀ (r : Fin 2), ∀ a, (k0_off1467 k0_t19 (BitVec.ofNat 32 (2 + r.val))) a + S1x64.size a ≤ S320x64.size a
  k0_off1469_inb : ∀ k0_t19 : Fin k0_t19_loop.trips, ∀ (r : Fin 2), ∀ a, (k0_off1469 k0_t19 (BitVec.ofNat 32 (3 + r.val))) a + S1x64.size a ≤ S320x64.size a
  k0_off1471_inb : ∀ k0_t19 : Fin k0_t19_loop.trips, ∀ a, (k0_off1471 k0_t19) a + S1x64.size a ≤ S320x64.size a
  k0_off1472_inb : ∀ k0_t19 : Fin k0_t19_loop.trips, ∀ a, (k0_off1472 k0_t19) a + S1x64.size a ≤ S64x64.size a
  k0_off1474_inb : ∀ k0_t19 : Fin k0_t19_loop.trips, ∀ a, (k0_off1474 k0_t19) a + S1x64.size a ≤ S64x64.size a
  k0_off1475_inb : ∀ k0_t19 : Fin k0_t19_loop.trips, ∀ a, (k0_off1475 k0_t19) a + S1x64.size a ≤ S320x64.size a
  k0_off1477_inb : ∀ k0_t19 : Fin k0_t19_loop.trips, ∀ (r : Fin 2), ∀ a, (k0_off1477 k0_t19 (BitVec.ofNat 32 r.val)) a + S1x64.size a ≤ S320x64.size a
  k0_off1479_inb : ∀ k0_t19 : Fin k0_t19_loop.trips, ∀ (r : Fin 2), ∀ a, (k0_off1479 k0_t19 (BitVec.ofNat 32 (1 + r.val))) a + S1x64.size a ≤ S320x64.size a
  k0_off1481_inb : ∀ k0_t19 : Fin k0_t19_loop.trips, ∀ (r : Fin 2), ∀ a, (k0_off1481 k0_t19 (BitVec.ofNat 32 (2 + r.val))) a + S1x64.size a ≤ S320x64.size a
  k0_off1483_inb : ∀ k0_t19 : Fin k0_t19_loop.trips, ∀ (r : Fin 2), ∀ a, (k0_off1483 k0_t19 (BitVec.ofNat 32 (3 + r.val))) a + S1x64.size a ≤ S320x64.size a
  k0_off1485_inb : ∀ k0_t19 : Fin k0_t19_loop.trips, ∀ a, (k0_off1485 k0_t19) a + S1x64.size a ≤ S320x64.size a
  k0_off1486_inb : ∀ k0_t19 : Fin k0_t19_loop.trips, ∀ a, (k0_off1486 k0_t19) a + S1x64.size a ≤ S64x64.size a
  k0_off1488_inb : ∀ k0_t19 : Fin k0_t19_loop.trips, ∀ a, (k0_off1488 k0_t19) a + S1x64.size a ≤ S64x64.size a
  k0_off1489_inb : ∀ k0_t19 : Fin k0_t19_loop.trips, ∀ a, (k0_off1489 k0_t19) a + S1x64.size a ≤ S320x64.size a
  k0_off1491_inb : ∀ k0_t19 : Fin k0_t19_loop.trips, ∀ (r : Fin 2), ∀ a, (k0_off1491 k0_t19 (BitVec.ofNat 32 r.val)) a + S1x64.size a ≤ S320x64.size a
  k0_off1493_inb : ∀ k0_t19 : Fin k0_t19_loop.trips, ∀ (r : Fin 2), ∀ a, (k0_off1493 k0_t19 (BitVec.ofNat 32 (1 + r.val))) a + S1x64.size a ≤ S320x64.size a
  k0_off1495_inb : ∀ k0_t19 : Fin k0_t19_loop.trips, ∀ (r : Fin 2), ∀ a, (k0_off1495 k0_t19 (BitVec.ofNat 32 (2 + r.val))) a + S1x64.size a ≤ S320x64.size a
  k0_off1497_inb : ∀ k0_t19 : Fin k0_t19_loop.trips, ∀ (r : Fin 2), ∀ a, (k0_off1497 k0_t19 (BitVec.ofNat 32 (3 + r.val))) a + S1x64.size a ≤ S320x64.size a
  k0_off1499_inb : ∀ k0_t19 : Fin k0_t19_loop.trips, ∀ a, (k0_off1499 k0_t19) a + S1x64.size a ≤ S320x64.size a
  k0_off1500_inb : ∀ k0_t19 : Fin k0_t19_loop.trips, ∀ a, (k0_off1500 k0_t19) a + S1x64.size a ≤ S64x64.size a
  k0_off1502_inb : ∀ k0_t19 : Fin k0_t19_loop.trips, ∀ a, (k0_off1502 k0_t19) a + S1x64.size a ≤ S64x64.size a
  k0_off1503_inb : ∀ k0_t19 : Fin k0_t19_loop.trips, ∀ a, (k0_off1503 k0_t19) a + S1x64.size a ≤ S320x64.size a
  k0_off1505_inb : ∀ k0_t19 : Fin k0_t19_loop.trips, ∀ (r : Fin 2), ∀ a, (k0_off1505 k0_t19 (BitVec.ofNat 32 r.val)) a + S1x64.size a ≤ S320x64.size a
  k0_off1507_inb : ∀ k0_t19 : Fin k0_t19_loop.trips, ∀ (r : Fin 2), ∀ a, (k0_off1507 k0_t19 (BitVec.ofNat 32 (1 + r.val))) a + S1x64.size a ≤ S320x64.size a
  k0_off1509_inb : ∀ k0_t19 : Fin k0_t19_loop.trips, ∀ (r : Fin 2), ∀ a, (k0_off1509 k0_t19 (BitVec.ofNat 32 (2 + r.val))) a + S1x64.size a ≤ S320x64.size a
  k0_off1511_inb : ∀ k0_t19 : Fin k0_t19_loop.trips, ∀ (r : Fin 2), ∀ a, (k0_off1511 k0_t19 (BitVec.ofNat 32 (3 + r.val))) a + S1x64.size a ≤ S320x64.size a
  k0_off1513_inb : ∀ k0_t19 : Fin k0_t19_loop.trips, ∀ a, (k0_off1513 k0_t19) a + S1x64.size a ≤ S320x64.size a
  k0_off1514_inb : ∀ k0_t19 : Fin k0_t19_loop.trips, ∀ a, (k0_off1514 k0_t19) a + S1x64.size a ≤ S64x64.size a
  k0_off1516_inb : ∀ k0_t19 : Fin k0_t19_loop.trips, ∀ a, (k0_off1516 k0_t19) a + S1x64.size a ≤ S64x64.size a
  k0_off1517_inb : ∀ k0_t19 : Fin k0_t19_loop.trips, ∀ a, (k0_off1517 k0_t19) a + S1x64.size a ≤ S320x64.size a
  k0_off1519_inb : ∀ k0_t19 : Fin k0_t19_loop.trips, ∀ (r : Fin 2), ∀ a, (k0_off1519 k0_t19 (BitVec.ofNat 32 r.val)) a + S1x64.size a ≤ S320x64.size a
  k0_off1521_inb : ∀ k0_t19 : Fin k0_t19_loop.trips, ∀ (r : Fin 2), ∀ a, (k0_off1521 k0_t19 (BitVec.ofNat 32 (1 + r.val))) a + S1x64.size a ≤ S320x64.size a
  k0_off1523_inb : ∀ k0_t19 : Fin k0_t19_loop.trips, ∀ (r : Fin 2), ∀ a, (k0_off1523 k0_t19 (BitVec.ofNat 32 (2 + r.val))) a + S1x64.size a ≤ S320x64.size a
  k0_off1525_inb : ∀ k0_t19 : Fin k0_t19_loop.trips, ∀ (r : Fin 2), ∀ a, (k0_off1525 k0_t19 (BitVec.ofNat 32 (3 + r.val))) a + S1x64.size a ≤ S320x64.size a
  k0_off1527_inb : ∀ k0_t19 : Fin k0_t19_loop.trips, ∀ a, (k0_off1527 k0_t19) a + S1x64.size a ≤ S320x64.size a
  k0_off1528_inb : ∀ k0_t19 : Fin k0_t19_loop.trips, ∀ a, (k0_off1528 k0_t19) a + S1x64.size a ≤ S64x64.size a
  k0_off1530_inb : ∀ k0_t19 : Fin k0_t19_loop.trips, ∀ a, (k0_off1530 k0_t19) a + S1x64.size a ≤ S64x64.size a
  k0_off1531_inb : ∀ k0_t19 : Fin k0_t19_loop.trips, ∀ a, (k0_off1531 k0_t19) a + S1x64.size a ≤ S320x64.size a
  k0_off1533_inb : ∀ k0_t19 : Fin k0_t19_loop.trips, ∀ (r : Fin 2), ∀ a, (k0_off1533 k0_t19 (BitVec.ofNat 32 r.val)) a + S1x64.size a ≤ S320x64.size a
  k0_off1535_inb : ∀ k0_t19 : Fin k0_t19_loop.trips, ∀ (r : Fin 2), ∀ a, (k0_off1535 k0_t19 (BitVec.ofNat 32 (1 + r.val))) a + S1x64.size a ≤ S320x64.size a
  k0_off1537_inb : ∀ k0_t19 : Fin k0_t19_loop.trips, ∀ (r : Fin 2), ∀ a, (k0_off1537 k0_t19 (BitVec.ofNat 32 (2 + r.val))) a + S1x64.size a ≤ S320x64.size a
  k0_off1539_inb : ∀ k0_t19 : Fin k0_t19_loop.trips, ∀ (r : Fin 2), ∀ a, (k0_off1539 k0_t19 (BitVec.ofNat 32 (3 + r.val))) a + S1x64.size a ≤ S320x64.size a
  k0_off1541_inb : ∀ k0_t19 : Fin k0_t19_loop.trips, ∀ a, (k0_off1541 k0_t19) a + S1x64.size a ≤ S320x64.size a
  k0_off1542_inb : ∀ k0_t19 : Fin k0_t19_loop.trips, ∀ a, (k0_off1542 k0_t19) a + S1x64.size a ≤ S64x64.size a
  k0_off1544_inb : ∀ k0_t19 : Fin k0_t19_loop.trips, ∀ a, (k0_off1544 k0_t19) a + S1x64.size a ≤ S64x64.size a
  k0_off1545_inb : ∀ k0_t19 : Fin k0_t19_loop.trips, ∀ a, (k0_off1545 k0_t19) a + S1x64.size a ≤ S320x64.size a
  k0_off1547_inb : ∀ k0_t19 : Fin k0_t19_loop.trips, ∀ (r : Fin 2), ∀ a, (k0_off1547 k0_t19 (BitVec.ofNat 32 r.val)) a + S1x64.size a ≤ S320x64.size a
  k0_off1549_inb : ∀ k0_t19 : Fin k0_t19_loop.trips, ∀ (r : Fin 2), ∀ a, (k0_off1549 k0_t19 (BitVec.ofNat 32 (1 + r.val))) a + S1x64.size a ≤ S320x64.size a
  k0_off1551_inb : ∀ k0_t19 : Fin k0_t19_loop.trips, ∀ (r : Fin 2), ∀ a, (k0_off1551 k0_t19 (BitVec.ofNat 32 (2 + r.val))) a + S1x64.size a ≤ S320x64.size a
  k0_off1553_inb : ∀ k0_t19 : Fin k0_t19_loop.trips, ∀ (r : Fin 2), ∀ a, (k0_off1553 k0_t19 (BitVec.ofNat 32 (3 + r.val))) a + S1x64.size a ≤ S320x64.size a
  k0_off1555_inb : ∀ k0_t19 : Fin k0_t19_loop.trips, ∀ a, (k0_off1555 k0_t19) a + S1x64.size a ≤ S320x64.size a
  k0_off1556_inb : ∀ k0_t19 : Fin k0_t19_loop.trips, ∀ a, (k0_off1556 k0_t19) a + S1x64.size a ≤ S64x64.size a
  k0_off1558_inb : ∀ k0_t19 : Fin k0_t19_loop.trips, ∀ a, (k0_off1558 k0_t19) a + S1x64.size a ≤ S64x64.size a
  k0_off1559_inb : ∀ k0_t19 : Fin k0_t19_loop.trips, ∀ a, (k0_off1559 k0_t19) a + S1x64.size a ≤ S320x64.size a
  k0_off1561_inb : ∀ k0_t19 : Fin k0_t19_loop.trips, ∀ (r : Fin 2), ∀ a, (k0_off1561 k0_t19 (BitVec.ofNat 32 r.val)) a + S1x64.size a ≤ S320x64.size a
  k0_off1563_inb : ∀ k0_t19 : Fin k0_t19_loop.trips, ∀ (r : Fin 2), ∀ a, (k0_off1563 k0_t19 (BitVec.ofNat 32 (1 + r.val))) a + S1x64.size a ≤ S320x64.size a
  k0_off1565_inb : ∀ k0_t19 : Fin k0_t19_loop.trips, ∀ (r : Fin 2), ∀ a, (k0_off1565 k0_t19 (BitVec.ofNat 32 (2 + r.val))) a + S1x64.size a ≤ S320x64.size a
  k0_off1567_inb : ∀ k0_t19 : Fin k0_t19_loop.trips, ∀ (r : Fin 2), ∀ a, (k0_off1567 k0_t19 (BitVec.ofNat 32 (3 + r.val))) a + S1x64.size a ≤ S320x64.size a
  k0_off1569_inb : ∀ k0_t19 : Fin k0_t19_loop.trips, ∀ a, (k0_off1569 k0_t19) a + S1x64.size a ≤ S320x64.size a
  k0_off1570_inb : ∀ k0_t19 : Fin k0_t19_loop.trips, ∀ a, (k0_off1570 k0_t19) a + S1x64.size a ≤ S64x64.size a
  k0_off1572_inb : ∀ k0_t19 : Fin k0_t19_loop.trips, ∀ a, (k0_off1572 k0_t19) a + S1x64.size a ≤ S64x64.size a
  k0_off1573_inb : ∀ k0_t19 : Fin k0_t19_loop.trips, ∀ a, (k0_off1573 k0_t19) a + S1x64.size a ≤ S320x64.size a
  k0_off1575_inb : ∀ k0_t19 : Fin k0_t19_loop.trips, ∀ (r : Fin 2), ∀ a, (k0_off1575 k0_t19 (BitVec.ofNat 32 r.val)) a + S1x64.size a ≤ S320x64.size a
  k0_off1577_inb : ∀ k0_t19 : Fin k0_t19_loop.trips, ∀ (r : Fin 2), ∀ a, (k0_off1577 k0_t19 (BitVec.ofNat 32 (1 + r.val))) a + S1x64.size a ≤ S320x64.size a
  k0_off1579_inb : ∀ k0_t19 : Fin k0_t19_loop.trips, ∀ (r : Fin 2), ∀ a, (k0_off1579 k0_t19 (BitVec.ofNat 32 (2 + r.val))) a + S1x64.size a ≤ S320x64.size a
  k0_off1581_inb : ∀ k0_t19 : Fin k0_t19_loop.trips, ∀ (r : Fin 2), ∀ a, (k0_off1581 k0_t19 (BitVec.ofNat 32 (3 + r.val))) a + S1x64.size a ≤ S320x64.size a
  k0_off1583_inb : ∀ k0_t19 : Fin k0_t19_loop.trips, ∀ a, (k0_off1583 k0_t19) a + S1x64.size a ≤ S320x64.size a
  k0_off1584_inb : ∀ k0_t19 : Fin k0_t19_loop.trips, ∀ a, (k0_off1584 k0_t19) a + S1x64.size a ≤ S64x64.size a
  k0_off1586_inb : ∀ k0_t19 : Fin k0_t19_loop.trips, ∀ a, (k0_off1586 k0_t19) a + S1x64.size a ≤ S64x64.size a
  k0_off1587_inb : ∀ k0_t19 : Fin k0_t19_loop.trips, ∀ a, (k0_off1587 k0_t19) a + S1x64.size a ≤ S320x64.size a
  k0_off1589_inb : ∀ k0_t19 : Fin k0_t19_loop.trips, ∀ (r : Fin 2), ∀ a, (k0_off1589 k0_t19 (BitVec.ofNat 32 r.val)) a + S1x64.size a ≤ S320x64.size a
  k0_off1591_inb : ∀ k0_t19 : Fin k0_t19_loop.trips, ∀ (r : Fin 2), ∀ a, (k0_off1591 k0_t19 (BitVec.ofNat 32 (1 + r.val))) a + S1x64.size a ≤ S320x64.size a
  k0_off1593_inb : ∀ k0_t19 : Fin k0_t19_loop.trips, ∀ (r : Fin 2), ∀ a, (k0_off1593 k0_t19 (BitVec.ofNat 32 (2 + r.val))) a + S1x64.size a ≤ S320x64.size a
  k0_off1595_inb : ∀ k0_t19 : Fin k0_t19_loop.trips, ∀ (r : Fin 2), ∀ a, (k0_off1595 k0_t19 (BitVec.ofNat 32 (3 + r.val))) a + S1x64.size a ≤ S320x64.size a
  k0_off1597_inb : ∀ k0_t19 : Fin k0_t19_loop.trips, ∀ a, (k0_off1597 k0_t19) a + S1x64.size a ≤ S320x64.size a
  k0_off1598_inb : ∀ k0_t19 : Fin k0_t19_loop.trips, ∀ a, (k0_off1598 k0_t19) a + S1x64.size a ≤ S64x64.size a
  k0_off1600_inb : ∀ k0_t19 : Fin k0_t19_loop.trips, ∀ a, (k0_off1600 k0_t19) a + S1x64.size a ≤ S64x64.size a
  k0_off1601_inb : ∀ k0_t19 : Fin k0_t19_loop.trips, ∀ a, (k0_off1601 k0_t19) a + S1x64.size a ≤ S320x64.size a
  k0_off1603_inb : ∀ k0_t19 : Fin k0_t19_loop.trips, ∀ (r : Fin 2), ∀ a, (k0_off1603 k0_t19 (BitVec.ofNat 32 r.val)) a + S1x64.size a ≤ S320x64.size a
  k0_off1605_inb : ∀ k0_t19 : Fin k0_t19_loop.trips, ∀ (r : Fin 2), ∀ a, (k0_off1605 k0_t19 (BitVec.ofNat 32 (1 + r.val))) a + S1x64.size a ≤ S320x64.size a
  k0_off1607_inb : ∀ k0_t19 : Fin k0_t19_loop.trips, ∀ (r : Fin 2), ∀ a, (k0_off1607 k0_t19 (BitVec.ofNat 32 (2 + r.val))) a + S1x64.size a ≤ S320x64.size a
  k0_off1609_inb : ∀ k0_t19 : Fin k0_t19_loop.trips, ∀ (r : Fin 2), ∀ a, (k0_off1609 k0_t19 (BitVec.ofNat 32 (3 + r.val))) a + S1x64.size a ≤ S320x64.size a
  k0_off1611_inb : ∀ k0_t19 : Fin k0_t19_loop.trips, ∀ a, (k0_off1611 k0_t19) a + S1x64.size a ≤ S320x64.size a
  k0_off1612_inb : ∀ k0_t19 : Fin k0_t19_loop.trips, ∀ a, (k0_off1612 k0_t19) a + S1x64.size a ≤ S64x64.size a
  k0_off1614_inb : ∀ k0_t19 : Fin k0_t19_loop.trips, ∀ a, (k0_off1614 k0_t19) a + S1x64.size a ≤ S64x64.size a
  k0_off1615_inb : ∀ k0_t19 : Fin k0_t19_loop.trips, ∀ a, (k0_off1615 k0_t19) a + S1x64.size a ≤ S320x64.size a
  k0_off1617_inb : ∀ k0_t19 : Fin k0_t19_loop.trips, ∀ (r : Fin 2), ∀ a, (k0_off1617 k0_t19 (BitVec.ofNat 32 r.val)) a + S1x64.size a ≤ S320x64.size a
  k0_off1619_inb : ∀ k0_t19 : Fin k0_t19_loop.trips, ∀ (r : Fin 2), ∀ a, (k0_off1619 k0_t19 (BitVec.ofNat 32 (1 + r.val))) a + S1x64.size a ≤ S320x64.size a
  k0_off1621_inb : ∀ k0_t19 : Fin k0_t19_loop.trips, ∀ (r : Fin 2), ∀ a, (k0_off1621 k0_t19 (BitVec.ofNat 32 (2 + r.val))) a + S1x64.size a ≤ S320x64.size a
  k0_off1623_inb : ∀ k0_t19 : Fin k0_t19_loop.trips, ∀ (r : Fin 2), ∀ a, (k0_off1623 k0_t19 (BitVec.ofNat 32 (3 + r.val))) a + S1x64.size a ≤ S320x64.size a
  k0_off1625_inb : ∀ k0_t19 : Fin k0_t19_loop.trips, ∀ a, (k0_off1625 k0_t19) a + S1x64.size a ≤ S320x64.size a
  k0_off1626_inb : ∀ k0_t19 : Fin k0_t19_loop.trips, ∀ a, (k0_off1626 k0_t19) a + S1x64.size a ≤ S64x64.size a
  k0_off1628_inb : ∀ k0_t19 : Fin k0_t19_loop.trips, ∀ a, (k0_off1628 k0_t19) a + S1x64.size a ≤ S64x64.size a
  k0_off1629_inb : ∀ k0_t19 : Fin k0_t19_loop.trips, ∀ a, (k0_off1629 k0_t19) a + S1x64.size a ≤ S320x64.size a
  k0_off1631_inb : ∀ k0_t19 : Fin k0_t19_loop.trips, ∀ (r : Fin 2), ∀ a, (k0_off1631 k0_t19 (BitVec.ofNat 32 r.val)) a + S1x64.size a ≤ S320x64.size a
  k0_off1633_inb : ∀ k0_t19 : Fin k0_t19_loop.trips, ∀ (r : Fin 2), ∀ a, (k0_off1633 k0_t19 (BitVec.ofNat 32 (1 + r.val))) a + S1x64.size a ≤ S320x64.size a
  k0_off1635_inb : ∀ k0_t19 : Fin k0_t19_loop.trips, ∀ (r : Fin 2), ∀ a, (k0_off1635 k0_t19 (BitVec.ofNat 32 (2 + r.val))) a + S1x64.size a ≤ S320x64.size a
  k0_off1637_inb : ∀ k0_t19 : Fin k0_t19_loop.trips, ∀ (r : Fin 2), ∀ a, (k0_off1637 k0_t19 (BitVec.ofNat 32 (3 + r.val))) a + S1x64.size a ≤ S320x64.size a
  k0_off1639_inb : ∀ k0_t19 : Fin k0_t19_loop.trips, ∀ a, (k0_off1639 k0_t19) a + S1x64.size a ≤ S320x64.size a
  k0_t20_ok : k0_t20_loop.OK
  k0_t21_ok : k0_t21_loop.OK
  k0_off1640_inb : ∀ k0_t21 : Fin k0_t21_loop.trips, ∀ a, (k0_off1640 k0_t21) a + S1x16.size a ≤ S64x64.size a
  k0_off1641_inb : ∀ k0_t21 : Fin k0_t21_loop.trips, ∀ a, (k0_off1641 k0_t21) a + S1x16.size a ≤ S64x64.size a
  k0_off1642_inb : ∀ k0_t21 : Fin k0_t21_loop.trips, ∀ a, (k0_off1642 k0_t21) a + S1x16.size a ≤ S64x64.size a
  k0_off1643_inb : ∀ k0_t21 : Fin k0_t21_loop.trips, ∀ a, (k0_off1643 k0_t21) a + S1x16.size a ≤ S64x64.size a
  k0_off1644_inb : ∀ k0_t21 : Fin k0_t21_loop.trips, ∀ (r : Fin 5), ∀ a, (k0_off1644 k0_t21 (BitVec.ofNat 32 r.val)) a + S1x16.size a ≤ S320x64.size a
  k0_off1645_inb : ∀ k0_t21 : Fin k0_t21_loop.trips, ∀ (r : Fin 5), ∀ a, (k0_off1645 k0_t21 (BitVec.ofNat 32 r.val)) a + S1x16.size a ≤ S320x64.size a
  k0_off1646_inb : ∀ k0_t21 : Fin k0_t21_loop.trips, ∀ (r : Fin 5), ∀ a, (k0_off1646 k0_t21 (BitVec.ofNat 32 r.val)) a + S1x16.size a ≤ S320x64.size a
  k0_off1647_inb : ∀ k0_t21 : Fin k0_t21_loop.trips, ∀ (r : Fin 5), ∀ a, (k0_off1647 k0_t21 (BitVec.ofNat 32 r.val)) a + S1x16.size a ≤ S320x64.size a
  k0_off1648_inb : ∀ k0_t21 : Fin k0_t21_loop.trips, ∀ (r : Fin 5), ∀ a, (k0_off1648 k0_t21 (BitVec.ofNat 32 (16 * r.val))) a + S16.size a ≤ S40960.size a
  k0_t22_ok : k0_t22_loop.OK

class K0.R2.Facts₀ : Prop where
  k0_off1649_inb : ∀ k0_t22 : Fin k0_t22_loop.trips, ∀ a, (k0_off1649 k0_t22) a + S16.size a ≤ S512.size a
  k0_off1650_inb : ∀ k0_t22 : Fin k0_t22_loop.trips, ∀ (r : Fin 5), ∀ a, (k0_off1650 k0_t22 (BitVec.ofNat 32 (16 * r.val))) a + S16.size a ≤ S2560.size a
  k0_off1651_inb : ∀ k0_t22 : Fin k0_t22_loop.trips, ∀ a, (k0_off1651 k0_t22) a + S1x64.size a ≤ S64x64.size a
  k0_off1653_inb : ∀ k0_t22 : Fin k0_t22_loop.trips, ∀ a, (k0_off1653 k0_t22) a + S1x64.size a ≤ S64x64.size a
  k0_off1654_inb : ∀ k0_t22 : Fin k0_t22_loop.trips, ∀ a, (k0_off1654 k0_t22) a + S1x64.size a ≤ S320x64.size a
  k0_off1656_inb : ∀ k0_t22 : Fin k0_t22_loop.trips, ∀ (r : Fin 2), ∀ a, (k0_off1656 k0_t22 (BitVec.ofNat 32 r.val)) a + S1x64.size a ≤ S320x64.size a
  k0_off1658_inb : ∀ k0_t22 : Fin k0_t22_loop.trips, ∀ (r : Fin 2), ∀ a, (k0_off1658 k0_t22 (BitVec.ofNat 32 (1 + r.val))) a + S1x64.size a ≤ S320x64.size a
  k0_off1660_inb : ∀ k0_t22 : Fin k0_t22_loop.trips, ∀ (r : Fin 2), ∀ a, (k0_off1660 k0_t22 (BitVec.ofNat 32 (2 + r.val))) a + S1x64.size a ≤ S320x64.size a
  k0_off1662_inb : ∀ k0_t22 : Fin k0_t22_loop.trips, ∀ (r : Fin 2), ∀ a, (k0_off1662 k0_t22 (BitVec.ofNat 32 (3 + r.val))) a + S1x64.size a ≤ S320x64.size a
  k0_off1664_inb : ∀ k0_t22 : Fin k0_t22_loop.trips, ∀ a, (k0_off1664 k0_t22) a + S1x64.size a ≤ S320x64.size a
  k0_off1665_inb : ∀ k0_t22 : Fin k0_t22_loop.trips, ∀ a, (k0_off1665 k0_t22) a + S1x64.size a ≤ S64x64.size a
  k0_off1667_inb : ∀ k0_t22 : Fin k0_t22_loop.trips, ∀ a, (k0_off1667 k0_t22) a + S1x64.size a ≤ S64x64.size a
  k0_off1668_inb : ∀ k0_t22 : Fin k0_t22_loop.trips, ∀ a, (k0_off1668 k0_t22) a + S1x64.size a ≤ S320x64.size a
  k0_off1670_inb : ∀ k0_t22 : Fin k0_t22_loop.trips, ∀ (r : Fin 2), ∀ a, (k0_off1670 k0_t22 (BitVec.ofNat 32 r.val)) a + S1x64.size a ≤ S320x64.size a
  k0_off1672_inb : ∀ k0_t22 : Fin k0_t22_loop.trips, ∀ (r : Fin 2), ∀ a, (k0_off1672 k0_t22 (BitVec.ofNat 32 (1 + r.val))) a + S1x64.size a ≤ S320x64.size a
  k0_off1674_inb : ∀ k0_t22 : Fin k0_t22_loop.trips, ∀ (r : Fin 2), ∀ a, (k0_off1674 k0_t22 (BitVec.ofNat 32 (2 + r.val))) a + S1x64.size a ≤ S320x64.size a
  k0_off1676_inb : ∀ k0_t22 : Fin k0_t22_loop.trips, ∀ (r : Fin 2), ∀ a, (k0_off1676 k0_t22 (BitVec.ofNat 32 (3 + r.val))) a + S1x64.size a ≤ S320x64.size a
  k0_off1678_inb : ∀ k0_t22 : Fin k0_t22_loop.trips, ∀ a, (k0_off1678 k0_t22) a + S1x64.size a ≤ S320x64.size a
  k0_off1679_inb : ∀ k0_t22 : Fin k0_t22_loop.trips, ∀ a, (k0_off1679 k0_t22) a + S1x64.size a ≤ S64x64.size a
  k0_off1681_inb : ∀ k0_t22 : Fin k0_t22_loop.trips, ∀ a, (k0_off1681 k0_t22) a + S1x64.size a ≤ S64x64.size a
  k0_off1682_inb : ∀ k0_t22 : Fin k0_t22_loop.trips, ∀ a, (k0_off1682 k0_t22) a + S1x64.size a ≤ S320x64.size a
  k0_off1684_inb : ∀ k0_t22 : Fin k0_t22_loop.trips, ∀ (r : Fin 2), ∀ a, (k0_off1684 k0_t22 (BitVec.ofNat 32 r.val)) a + S1x64.size a ≤ S320x64.size a
  k0_off1686_inb : ∀ k0_t22 : Fin k0_t22_loop.trips, ∀ (r : Fin 2), ∀ a, (k0_off1686 k0_t22 (BitVec.ofNat 32 (1 + r.val))) a + S1x64.size a ≤ S320x64.size a
  k0_off1688_inb : ∀ k0_t22 : Fin k0_t22_loop.trips, ∀ (r : Fin 2), ∀ a, (k0_off1688 k0_t22 (BitVec.ofNat 32 (2 + r.val))) a + S1x64.size a ≤ S320x64.size a
  k0_off1690_inb : ∀ k0_t22 : Fin k0_t22_loop.trips, ∀ (r : Fin 2), ∀ a, (k0_off1690 k0_t22 (BitVec.ofNat 32 (3 + r.val))) a + S1x64.size a ≤ S320x64.size a
  k0_off1692_inb : ∀ k0_t22 : Fin k0_t22_loop.trips, ∀ a, (k0_off1692 k0_t22) a + S1x64.size a ≤ S320x64.size a
  k0_off1693_inb : ∀ k0_t22 : Fin k0_t22_loop.trips, ∀ a, (k0_off1693 k0_t22) a + S1x64.size a ≤ S64x64.size a
  k0_off1695_inb : ∀ k0_t22 : Fin k0_t22_loop.trips, ∀ a, (k0_off1695 k0_t22) a + S1x64.size a ≤ S64x64.size a
  k0_off1696_inb : ∀ k0_t22 : Fin k0_t22_loop.trips, ∀ a, (k0_off1696 k0_t22) a + S1x64.size a ≤ S320x64.size a
  k0_off1698_inb : ∀ k0_t22 : Fin k0_t22_loop.trips, ∀ (r : Fin 2), ∀ a, (k0_off1698 k0_t22 (BitVec.ofNat 32 r.val)) a + S1x64.size a ≤ S320x64.size a
  k0_off1700_inb : ∀ k0_t22 : Fin k0_t22_loop.trips, ∀ (r : Fin 2), ∀ a, (k0_off1700 k0_t22 (BitVec.ofNat 32 (1 + r.val))) a + S1x64.size a ≤ S320x64.size a
  k0_off1702_inb : ∀ k0_t22 : Fin k0_t22_loop.trips, ∀ (r : Fin 2), ∀ a, (k0_off1702 k0_t22 (BitVec.ofNat 32 (2 + r.val))) a + S1x64.size a ≤ S320x64.size a
  k0_off1704_inb : ∀ k0_t22 : Fin k0_t22_loop.trips, ∀ (r : Fin 2), ∀ a, (k0_off1704 k0_t22 (BitVec.ofNat 32 (3 + r.val))) a + S1x64.size a ≤ S320x64.size a
  k0_off1706_inb : ∀ k0_t22 : Fin k0_t22_loop.trips, ∀ a, (k0_off1706 k0_t22) a + S1x64.size a ≤ S320x64.size a
  k0_off1707_inb : ∀ k0_t22 : Fin k0_t22_loop.trips, ∀ a, (k0_off1707 k0_t22) a + S1x64.size a ≤ S64x64.size a
  k0_off1709_inb : ∀ k0_t22 : Fin k0_t22_loop.trips, ∀ a, (k0_off1709 k0_t22) a + S1x64.size a ≤ S64x64.size a
  k0_off1710_inb : ∀ k0_t22 : Fin k0_t22_loop.trips, ∀ a, (k0_off1710 k0_t22) a + S1x64.size a ≤ S320x64.size a
  k0_off1712_inb : ∀ k0_t22 : Fin k0_t22_loop.trips, ∀ (r : Fin 2), ∀ a, (k0_off1712 k0_t22 (BitVec.ofNat 32 r.val)) a + S1x64.size a ≤ S320x64.size a
  k0_off1714_inb : ∀ k0_t22 : Fin k0_t22_loop.trips, ∀ (r : Fin 2), ∀ a, (k0_off1714 k0_t22 (BitVec.ofNat 32 (1 + r.val))) a + S1x64.size a ≤ S320x64.size a
  k0_off1716_inb : ∀ k0_t22 : Fin k0_t22_loop.trips, ∀ (r : Fin 2), ∀ a, (k0_off1716 k0_t22 (BitVec.ofNat 32 (2 + r.val))) a + S1x64.size a ≤ S320x64.size a
  k0_off1718_inb : ∀ k0_t22 : Fin k0_t22_loop.trips, ∀ (r : Fin 2), ∀ a, (k0_off1718 k0_t22 (BitVec.ofNat 32 (3 + r.val))) a + S1x64.size a ≤ S320x64.size a
  k0_off1720_inb : ∀ k0_t22 : Fin k0_t22_loop.trips, ∀ a, (k0_off1720 k0_t22) a + S1x64.size a ≤ S320x64.size a
  k0_off1721_inb : ∀ k0_t22 : Fin k0_t22_loop.trips, ∀ a, (k0_off1721 k0_t22) a + S1x64.size a ≤ S64x64.size a
  k0_off1723_inb : ∀ k0_t22 : Fin k0_t22_loop.trips, ∀ a, (k0_off1723 k0_t22) a + S1x64.size a ≤ S64x64.size a
  k0_off1724_inb : ∀ k0_t22 : Fin k0_t22_loop.trips, ∀ a, (k0_off1724 k0_t22) a + S1x64.size a ≤ S320x64.size a
  k0_off1726_inb : ∀ k0_t22 : Fin k0_t22_loop.trips, ∀ (r : Fin 2), ∀ a, (k0_off1726 k0_t22 (BitVec.ofNat 32 r.val)) a + S1x64.size a ≤ S320x64.size a
  k0_off1728_inb : ∀ k0_t22 : Fin k0_t22_loop.trips, ∀ (r : Fin 2), ∀ a, (k0_off1728 k0_t22 (BitVec.ofNat 32 (1 + r.val))) a + S1x64.size a ≤ S320x64.size a
  k0_off1730_inb : ∀ k0_t22 : Fin k0_t22_loop.trips, ∀ (r : Fin 2), ∀ a, (k0_off1730 k0_t22 (BitVec.ofNat 32 (2 + r.val))) a + S1x64.size a ≤ S320x64.size a
  k0_off1732_inb : ∀ k0_t22 : Fin k0_t22_loop.trips, ∀ (r : Fin 2), ∀ a, (k0_off1732 k0_t22 (BitVec.ofNat 32 (3 + r.val))) a + S1x64.size a ≤ S320x64.size a
  k0_off1734_inb : ∀ k0_t22 : Fin k0_t22_loop.trips, ∀ a, (k0_off1734 k0_t22) a + S1x64.size a ≤ S320x64.size a
  k0_off1735_inb : ∀ k0_t22 : Fin k0_t22_loop.trips, ∀ a, (k0_off1735 k0_t22) a + S1x64.size a ≤ S64x64.size a
  k0_off1737_inb : ∀ k0_t22 : Fin k0_t22_loop.trips, ∀ a, (k0_off1737 k0_t22) a + S1x64.size a ≤ S64x64.size a
  k0_off1738_inb : ∀ k0_t22 : Fin k0_t22_loop.trips, ∀ a, (k0_off1738 k0_t22) a + S1x64.size a ≤ S320x64.size a
  k0_off1740_inb : ∀ k0_t22 : Fin k0_t22_loop.trips, ∀ (r : Fin 2), ∀ a, (k0_off1740 k0_t22 (BitVec.ofNat 32 r.val)) a + S1x64.size a ≤ S320x64.size a
  k0_off1742_inb : ∀ k0_t22 : Fin k0_t22_loop.trips, ∀ (r : Fin 2), ∀ a, (k0_off1742 k0_t22 (BitVec.ofNat 32 (1 + r.val))) a + S1x64.size a ≤ S320x64.size a
  k0_off1744_inb : ∀ k0_t22 : Fin k0_t22_loop.trips, ∀ (r : Fin 2), ∀ a, (k0_off1744 k0_t22 (BitVec.ofNat 32 (2 + r.val))) a + S1x64.size a ≤ S320x64.size a
  k0_off1746_inb : ∀ k0_t22 : Fin k0_t22_loop.trips, ∀ (r : Fin 2), ∀ a, (k0_off1746 k0_t22 (BitVec.ofNat 32 (3 + r.val))) a + S1x64.size a ≤ S320x64.size a
  k0_off1748_inb : ∀ k0_t22 : Fin k0_t22_loop.trips, ∀ a, (k0_off1748 k0_t22) a + S1x64.size a ≤ S320x64.size a
  k0_off1749_inb : ∀ k0_t22 : Fin k0_t22_loop.trips, ∀ a, (k0_off1749 k0_t22) a + S1x64.size a ≤ S64x64.size a
  k0_off1751_inb : ∀ k0_t22 : Fin k0_t22_loop.trips, ∀ a, (k0_off1751 k0_t22) a + S1x64.size a ≤ S64x64.size a
  k0_off1752_inb : ∀ k0_t22 : Fin k0_t22_loop.trips, ∀ a, (k0_off1752 k0_t22) a + S1x64.size a ≤ S320x64.size a
  k0_off1754_inb : ∀ k0_t22 : Fin k0_t22_loop.trips, ∀ (r : Fin 2), ∀ a, (k0_off1754 k0_t22 (BitVec.ofNat 32 r.val)) a + S1x64.size a ≤ S320x64.size a
  k0_off1756_inb : ∀ k0_t22 : Fin k0_t22_loop.trips, ∀ (r : Fin 2), ∀ a, (k0_off1756 k0_t22 (BitVec.ofNat 32 (1 + r.val))) a + S1x64.size a ≤ S320x64.size a
  k0_off1758_inb : ∀ k0_t22 : Fin k0_t22_loop.trips, ∀ (r : Fin 2), ∀ a, (k0_off1758 k0_t22 (BitVec.ofNat 32 (2 + r.val))) a + S1x64.size a ≤ S320x64.size a
  k0_off1760_inb : ∀ k0_t22 : Fin k0_t22_loop.trips, ∀ (r : Fin 2), ∀ a, (k0_off1760 k0_t22 (BitVec.ofNat 32 (3 + r.val))) a + S1x64.size a ≤ S320x64.size a
  k0_off1762_inb : ∀ k0_t22 : Fin k0_t22_loop.trips, ∀ a, (k0_off1762 k0_t22) a + S1x64.size a ≤ S320x64.size a
  k0_off1763_inb : ∀ k0_t22 : Fin k0_t22_loop.trips, ∀ a, (k0_off1763 k0_t22) a + S1x64.size a ≤ S64x64.size a
  k0_off1765_inb : ∀ k0_t22 : Fin k0_t22_loop.trips, ∀ a, (k0_off1765 k0_t22) a + S1x64.size a ≤ S64x64.size a
  k0_off1766_inb : ∀ k0_t22 : Fin k0_t22_loop.trips, ∀ a, (k0_off1766 k0_t22) a + S1x64.size a ≤ S320x64.size a
  k0_off1768_inb : ∀ k0_t22 : Fin k0_t22_loop.trips, ∀ (r : Fin 2), ∀ a, (k0_off1768 k0_t22 (BitVec.ofNat 32 r.val)) a + S1x64.size a ≤ S320x64.size a
  k0_off1770_inb : ∀ k0_t22 : Fin k0_t22_loop.trips, ∀ (r : Fin 2), ∀ a, (k0_off1770 k0_t22 (BitVec.ofNat 32 (1 + r.val))) a + S1x64.size a ≤ S320x64.size a
  k0_off1772_inb : ∀ k0_t22 : Fin k0_t22_loop.trips, ∀ (r : Fin 2), ∀ a, (k0_off1772 k0_t22 (BitVec.ofNat 32 (2 + r.val))) a + S1x64.size a ≤ S320x64.size a
  k0_off1774_inb : ∀ k0_t22 : Fin k0_t22_loop.trips, ∀ (r : Fin 2), ∀ a, (k0_off1774 k0_t22 (BitVec.ofNat 32 (3 + r.val))) a + S1x64.size a ≤ S320x64.size a
  k0_off1776_inb : ∀ k0_t22 : Fin k0_t22_loop.trips, ∀ a, (k0_off1776 k0_t22) a + S1x64.size a ≤ S320x64.size a
  k0_off1777_inb : ∀ k0_t22 : Fin k0_t22_loop.trips, ∀ a, (k0_off1777 k0_t22) a + S1x64.size a ≤ S64x64.size a
  k0_off1779_inb : ∀ k0_t22 : Fin k0_t22_loop.trips, ∀ a, (k0_off1779 k0_t22) a + S1x64.size a ≤ S64x64.size a
  k0_off1780_inb : ∀ k0_t22 : Fin k0_t22_loop.trips, ∀ a, (k0_off1780 k0_t22) a + S1x64.size a ≤ S320x64.size a
  k0_off1782_inb : ∀ k0_t22 : Fin k0_t22_loop.trips, ∀ (r : Fin 2), ∀ a, (k0_off1782 k0_t22 (BitVec.ofNat 32 r.val)) a + S1x64.size a ≤ S320x64.size a
  k0_off1784_inb : ∀ k0_t22 : Fin k0_t22_loop.trips, ∀ (r : Fin 2), ∀ a, (k0_off1784 k0_t22 (BitVec.ofNat 32 (1 + r.val))) a + S1x64.size a ≤ S320x64.size a
  k0_off1786_inb : ∀ k0_t22 : Fin k0_t22_loop.trips, ∀ (r : Fin 2), ∀ a, (k0_off1786 k0_t22 (BitVec.ofNat 32 (2 + r.val))) a + S1x64.size a ≤ S320x64.size a
  k0_off1788_inb : ∀ k0_t22 : Fin k0_t22_loop.trips, ∀ (r : Fin 2), ∀ a, (k0_off1788 k0_t22 (BitVec.ofNat 32 (3 + r.val))) a + S1x64.size a ≤ S320x64.size a
  k0_off1790_inb : ∀ k0_t22 : Fin k0_t22_loop.trips, ∀ a, (k0_off1790 k0_t22) a + S1x64.size a ≤ S320x64.size a
  k0_off1791_inb : ∀ k0_t22 : Fin k0_t22_loop.trips, ∀ a, (k0_off1791 k0_t22) a + S1x64.size a ≤ S64x64.size a
  k0_off1793_inb : ∀ k0_t22 : Fin k0_t22_loop.trips, ∀ a, (k0_off1793 k0_t22) a + S1x64.size a ≤ S64x64.size a
  k0_off1794_inb : ∀ k0_t22 : Fin k0_t22_loop.trips, ∀ a, (k0_off1794 k0_t22) a + S1x64.size a ≤ S320x64.size a
  k0_off1796_inb : ∀ k0_t22 : Fin k0_t22_loop.trips, ∀ (r : Fin 2), ∀ a, (k0_off1796 k0_t22 (BitVec.ofNat 32 r.val)) a + S1x64.size a ≤ S320x64.size a
  k0_off1798_inb : ∀ k0_t22 : Fin k0_t22_loop.trips, ∀ (r : Fin 2), ∀ a, (k0_off1798 k0_t22 (BitVec.ofNat 32 (1 + r.val))) a + S1x64.size a ≤ S320x64.size a
  k0_off1800_inb : ∀ k0_t22 : Fin k0_t22_loop.trips, ∀ (r : Fin 2), ∀ a, (k0_off1800 k0_t22 (BitVec.ofNat 32 (2 + r.val))) a + S1x64.size a ≤ S320x64.size a
  k0_off1802_inb : ∀ k0_t22 : Fin k0_t22_loop.trips, ∀ (r : Fin 2), ∀ a, (k0_off1802 k0_t22 (BitVec.ofNat 32 (3 + r.val))) a + S1x64.size a ≤ S320x64.size a
  k0_off1804_inb : ∀ k0_t22 : Fin k0_t22_loop.trips, ∀ a, (k0_off1804 k0_t22) a + S1x64.size a ≤ S320x64.size a
  k0_off1805_inb : ∀ k0_t22 : Fin k0_t22_loop.trips, ∀ a, (k0_off1805 k0_t22) a + S1x64.size a ≤ S64x64.size a
  k0_off1807_inb : ∀ k0_t22 : Fin k0_t22_loop.trips, ∀ a, (k0_off1807 k0_t22) a + S1x64.size a ≤ S64x64.size a
  k0_off1808_inb : ∀ k0_t22 : Fin k0_t22_loop.trips, ∀ a, (k0_off1808 k0_t22) a + S1x64.size a ≤ S320x64.size a
  k0_off1810_inb : ∀ k0_t22 : Fin k0_t22_loop.trips, ∀ (r : Fin 2), ∀ a, (k0_off1810 k0_t22 (BitVec.ofNat 32 r.val)) a + S1x64.size a ≤ S320x64.size a
  k0_off1812_inb : ∀ k0_t22 : Fin k0_t22_loop.trips, ∀ (r : Fin 2), ∀ a, (k0_off1812 k0_t22 (BitVec.ofNat 32 (1 + r.val))) a + S1x64.size a ≤ S320x64.size a
  k0_off1814_inb : ∀ k0_t22 : Fin k0_t22_loop.trips, ∀ (r : Fin 2), ∀ a, (k0_off1814 k0_t22 (BitVec.ofNat 32 (2 + r.val))) a + S1x64.size a ≤ S320x64.size a
  k0_off1816_inb : ∀ k0_t22 : Fin k0_t22_loop.trips, ∀ (r : Fin 2), ∀ a, (k0_off1816 k0_t22 (BitVec.ofNat 32 (3 + r.val))) a + S1x64.size a ≤ S320x64.size a
  k0_off1818_inb : ∀ k0_t22 : Fin k0_t22_loop.trips, ∀ a, (k0_off1818 k0_t22) a + S1x64.size a ≤ S320x64.size a
  k0_off1819_inb : ∀ k0_t22 : Fin k0_t22_loop.trips, ∀ a, (k0_off1819 k0_t22) a + S1x64.size a ≤ S64x64.size a
  k0_off1821_inb : ∀ k0_t22 : Fin k0_t22_loop.trips, ∀ a, (k0_off1821 k0_t22) a + S1x64.size a ≤ S64x64.size a
  k0_off1822_inb : ∀ k0_t22 : Fin k0_t22_loop.trips, ∀ a, (k0_off1822 k0_t22) a + S1x64.size a ≤ S320x64.size a
  k0_off1824_inb : ∀ k0_t22 : Fin k0_t22_loop.trips, ∀ (r : Fin 2), ∀ a, (k0_off1824 k0_t22 (BitVec.ofNat 32 r.val)) a + S1x64.size a ≤ S320x64.size a
  k0_off1826_inb : ∀ k0_t22 : Fin k0_t22_loop.trips, ∀ (r : Fin 2), ∀ a, (k0_off1826 k0_t22 (BitVec.ofNat 32 (1 + r.val))) a + S1x64.size a ≤ S320x64.size a
  k0_off1828_inb : ∀ k0_t22 : Fin k0_t22_loop.trips, ∀ (r : Fin 2), ∀ a, (k0_off1828 k0_t22 (BitVec.ofNat 32 (2 + r.val))) a + S1x64.size a ≤ S320x64.size a
  k0_off1830_inb : ∀ k0_t22 : Fin k0_t22_loop.trips, ∀ (r : Fin 2), ∀ a, (k0_off1830 k0_t22 (BitVec.ofNat 32 (3 + r.val))) a + S1x64.size a ≤ S320x64.size a
  k0_off1832_inb : ∀ k0_t22 : Fin k0_t22_loop.trips, ∀ a, (k0_off1832 k0_t22) a + S1x64.size a ≤ S320x64.size a
  k0_off1833_inb : ∀ k0_t22 : Fin k0_t22_loop.trips, ∀ a, (k0_off1833 k0_t22) a + S1x64.size a ≤ S64x64.size a
  k0_off1835_inb : ∀ k0_t22 : Fin k0_t22_loop.trips, ∀ a, (k0_off1835 k0_t22) a + S1x64.size a ≤ S64x64.size a
  k0_off1836_inb : ∀ k0_t22 : Fin k0_t22_loop.trips, ∀ a, (k0_off1836 k0_t22) a + S1x64.size a ≤ S320x64.size a
  k0_off1838_inb : ∀ k0_t22 : Fin k0_t22_loop.trips, ∀ (r : Fin 2), ∀ a, (k0_off1838 k0_t22 (BitVec.ofNat 32 r.val)) a + S1x64.size a ≤ S320x64.size a
  k0_off1840_inb : ∀ k0_t22 : Fin k0_t22_loop.trips, ∀ (r : Fin 2), ∀ a, (k0_off1840 k0_t22 (BitVec.ofNat 32 (1 + r.val))) a + S1x64.size a ≤ S320x64.size a
  k0_off1842_inb : ∀ k0_t22 : Fin k0_t22_loop.trips, ∀ (r : Fin 2), ∀ a, (k0_off1842 k0_t22 (BitVec.ofNat 32 (2 + r.val))) a + S1x64.size a ≤ S320x64.size a
  k0_off1844_inb : ∀ k0_t22 : Fin k0_t22_loop.trips, ∀ (r : Fin 2), ∀ a, (k0_off1844 k0_t22 (BitVec.ofNat 32 (3 + r.val))) a + S1x64.size a ≤ S320x64.size a
  k0_off1846_inb : ∀ k0_t22 : Fin k0_t22_loop.trips, ∀ a, (k0_off1846 k0_t22) a + S1x64.size a ≤ S320x64.size a
  k0_off1847_inb : ∀ k0_t22 : Fin k0_t22_loop.trips, ∀ a, (k0_off1847 k0_t22) a + S1x64.size a ≤ S64x64.size a
  k0_off1849_inb : ∀ k0_t22 : Fin k0_t22_loop.trips, ∀ a, (k0_off1849 k0_t22) a + S1x64.size a ≤ S64x64.size a
  k0_off1850_inb : ∀ k0_t22 : Fin k0_t22_loop.trips, ∀ a, (k0_off1850 k0_t22) a + S1x64.size a ≤ S320x64.size a
  k0_off1852_inb : ∀ k0_t22 : Fin k0_t22_loop.trips, ∀ (r : Fin 2), ∀ a, (k0_off1852 k0_t22 (BitVec.ofNat 32 r.val)) a + S1x64.size a ≤ S320x64.size a
  k0_off1854_inb : ∀ k0_t22 : Fin k0_t22_loop.trips, ∀ (r : Fin 2), ∀ a, (k0_off1854 k0_t22 (BitVec.ofNat 32 (1 + r.val))) a + S1x64.size a ≤ S320x64.size a
  k0_off1856_inb : ∀ k0_t22 : Fin k0_t22_loop.trips, ∀ (r : Fin 2), ∀ a, (k0_off1856 k0_t22 (BitVec.ofNat 32 (2 + r.val))) a + S1x64.size a ≤ S320x64.size a
  k0_off1858_inb : ∀ k0_t22 : Fin k0_t22_loop.trips, ∀ (r : Fin 2), ∀ a, (k0_off1858 k0_t22 (BitVec.ofNat 32 (3 + r.val))) a + S1x64.size a ≤ S320x64.size a
  k0_off1860_inb : ∀ k0_t22 : Fin k0_t22_loop.trips, ∀ a, (k0_off1860 k0_t22) a + S1x64.size a ≤ S320x64.size a
  k0_off1861_inb : ∀ k0_t22 : Fin k0_t22_loop.trips, ∀ a, (k0_off1861 k0_t22) a + S1x64.size a ≤ S64x64.size a
  k0_off1863_inb : ∀ k0_t22 : Fin k0_t22_loop.trips, ∀ a, (k0_off1863 k0_t22) a + S1x64.size a ≤ S64x64.size a
  k0_off1864_inb : ∀ k0_t22 : Fin k0_t22_loop.trips, ∀ a, (k0_off1864 k0_t22) a + S1x64.size a ≤ S320x64.size a
  k0_off1866_inb : ∀ k0_t22 : Fin k0_t22_loop.trips, ∀ (r : Fin 2), ∀ a, (k0_off1866 k0_t22 (BitVec.ofNat 32 r.val)) a + S1x64.size a ≤ S320x64.size a
  k0_off1868_inb : ∀ k0_t22 : Fin k0_t22_loop.trips, ∀ (r : Fin 2), ∀ a, (k0_off1868 k0_t22 (BitVec.ofNat 32 (1 + r.val))) a + S1x64.size a ≤ S320x64.size a
  k0_off1870_inb : ∀ k0_t22 : Fin k0_t22_loop.trips, ∀ (r : Fin 2), ∀ a, (k0_off1870 k0_t22 (BitVec.ofNat 32 (2 + r.val))) a + S1x64.size a ≤ S320x64.size a
  k0_off1872_inb : ∀ k0_t22 : Fin k0_t22_loop.trips, ∀ (r : Fin 2), ∀ a, (k0_off1872 k0_t22 (BitVec.ofNat 32 (3 + r.val))) a + S1x64.size a ≤ S320x64.size a
  k0_off1874_inb : ∀ k0_t22 : Fin k0_t22_loop.trips, ∀ a, (k0_off1874 k0_t22) a + S1x64.size a ≤ S320x64.size a
  k0_t23_ok : k0_t23_loop.OK
  k0_t24_ok : k0_t24_loop.OK
  k0_off1875_inb : ∀ k0_t24 : Fin k0_t24_loop.trips, ∀ a, (k0_off1875 k0_t24) a + S1x16.size a ≤ S64x64.size a
  k0_off1876_inb : ∀ k0_t24 : Fin k0_t24_loop.trips, ∀ a, (k0_off1876 k0_t24) a + S1x16.size a ≤ S64x64.size a
  k0_off1877_inb : ∀ k0_t24 : Fin k0_t24_loop.trips, ∀ a, (k0_off1877 k0_t24) a + S1x16.size a ≤ S64x64.size a
  k0_off1878_inb : ∀ k0_t24 : Fin k0_t24_loop.trips, ∀ a, (k0_off1878 k0_t24) a + S1x16.size a ≤ S64x64.size a
  k0_off1879_inb : ∀ k0_t24 : Fin k0_t24_loop.trips, ∀ (r : Fin 5), ∀ a, (k0_off1879 k0_t24 (BitVec.ofNat 32 r.val)) a + S1x16.size a ≤ S320x64.size a
  k0_off1880_inb : ∀ k0_t24 : Fin k0_t24_loop.trips, ∀ (r : Fin 5), ∀ a, (k0_off1880 k0_t24 (BitVec.ofNat 32 r.val)) a + S1x16.size a ≤ S320x64.size a
  k0_off1881_inb : ∀ k0_t24 : Fin k0_t24_loop.trips, ∀ (r : Fin 5), ∀ a, (k0_off1881 k0_t24 (BitVec.ofNat 32 r.val)) a + S1x16.size a ≤ S320x64.size a
  k0_off1882_inb : ∀ k0_t24 : Fin k0_t24_loop.trips, ∀ (r : Fin 5), ∀ a, (k0_off1882 k0_t24 (BitVec.ofNat 32 r.val)) a + S1x16.size a ≤ S320x64.size a
  k0_off1883_inb : ∀ k0_t24 : Fin k0_t24_loop.trips, ∀ (r : Fin 5), ∀ a, (k0_off1883 k0_t24 (BitVec.ofNat 32 (16 * r.val))) a + S16.size a ≤ S40960.size a
  k0_off1884_inb : ∀ i : grid0.Coords, ∀ a, (k0_off1884 i) a + S40960.size a ≤ S1310720.size a

class K1.Facts₀ : Prop where
  hcore1 : grid1.bound 0 ≤ τ.nSC
  hsub1 : grid1.bound 1 ≤ τ.nSub
  k1_off1_inb : ∀ i : grid1.Coords, ∀ a, (k1_off1 i) a + S512.size a ≤ S16384.size a
  k1_off2_inb : ∀ i : grid1.Coords, ∀ (r : Fin 8), ∀ a, (k1_off2 i (BitVec.ofNat 32 (64 * r.val))) a + S64x64.size a ≤ S16384x64.size a
  k1_t1_ok : k1_t1_loop.OK
  k1_off3_inb : ∀ k1_t1 : Fin k1_t1_loop.trips, ∀ a, (k1_off3 k1_t1) a + S16.size a ≤ S512.size a
  k1_off4_inb : ∀ k1_t1 : Fin k1_t1_loop.trips, ∀ a, (k1_off4 k1_t1) a + S1x64.size a ≤ S64x64.size a
  k1_off6_inb : ∀ k1_t1 : Fin k1_t1_loop.trips, ∀ (r : Fin 2), ∀ a, (k1_off6 k1_t1 (BitVec.ofNat 32 r.val)) a + S1x64.size a ≤ S64x64.size a
  k1_off8_inb : ∀ k1_t1 : Fin k1_t1_loop.trips, ∀ (r : Fin 2), ∀ a, (k1_off8 k1_t1 (BitVec.ofNat 32 (1 + r.val))) a + S1x64.size a ≤ S64x64.size a
  k1_off10_inb : ∀ k1_t1 : Fin k1_t1_loop.trips, ∀ (r : Fin 2), ∀ a, (k1_off10 k1_t1 (BitVec.ofNat 32 (2 + r.val))) a + S1x64.size a ≤ S64x64.size a
  k1_off12_inb : ∀ k1_t1 : Fin k1_t1_loop.trips, ∀ (r : Fin 2), ∀ a, (k1_off12 k1_t1 (BitVec.ofNat 32 (3 + r.val))) a + S1x64.size a ≤ S64x64.size a
  k1_off14_inb : ∀ k1_t1 : Fin k1_t1_loop.trips, ∀ (r : Fin 2), ∀ a, (k1_off14 k1_t1 (BitVec.ofNat 32 (4 + r.val))) a + S1x64.size a ≤ S64x64.size a
  k1_off16_inb : ∀ k1_t1 : Fin k1_t1_loop.trips, ∀ (r : Fin 2), ∀ a, (k1_off16 k1_t1 (BitVec.ofNat 32 (5 + r.val))) a + S1x64.size a ≤ S64x64.size a
  k1_off18_inb : ∀ k1_t1 : Fin k1_t1_loop.trips, ∀ (r : Fin 2), ∀ a, (k1_off18 k1_t1 (BitVec.ofNat 32 (6 + r.val))) a + S1x64.size a ≤ S64x64.size a
  k1_off20_inb : ∀ k1_t1 : Fin k1_t1_loop.trips, ∀ (r : Fin 2), ∀ a, (k1_off20 k1_t1 (BitVec.ofNat 32 (7 + r.val))) a + S1x64.size a ≤ S64x64.size a
  k1_off22_inb : ∀ k1_t1 : Fin k1_t1_loop.trips, ∀ (r : Fin 2), ∀ a, (k1_off22 k1_t1 (BitVec.ofNat 32 (8 + r.val))) a + S1x64.size a ≤ S64x64.size a
  k1_off24_inb : ∀ k1_t1 : Fin k1_t1_loop.trips, ∀ (r : Fin 2), ∀ a, (k1_off24 k1_t1 (BitVec.ofNat 32 (9 + r.val))) a + S1x64.size a ≤ S64x64.size a
  k1_off26_inb : ∀ k1_t1 : Fin k1_t1_loop.trips, ∀ (r : Fin 2), ∀ a, (k1_off26 k1_t1 (BitVec.ofNat 32 (10 + r.val))) a + S1x64.size a ≤ S64x64.size a
  k1_off28_inb : ∀ k1_t1 : Fin k1_t1_loop.trips, ∀ (r : Fin 2), ∀ a, (k1_off28 k1_t1 (BitVec.ofNat 32 (11 + r.val))) a + S1x64.size a ≤ S64x64.size a
  k1_off30_inb : ∀ k1_t1 : Fin k1_t1_loop.trips, ∀ (r : Fin 2), ∀ a, (k1_off30 k1_t1 (BitVec.ofNat 32 (12 + r.val))) a + S1x64.size a ≤ S64x64.size a
  k1_off32_inb : ∀ k1_t1 : Fin k1_t1_loop.trips, ∀ (r : Fin 2), ∀ a, (k1_off32 k1_t1 (BitVec.ofNat 32 (13 + r.val))) a + S1x64.size a ≤ S64x64.size a
  k1_off34_inb : ∀ k1_t1 : Fin k1_t1_loop.trips, ∀ (r : Fin 2), ∀ a, (k1_off34 k1_t1 (BitVec.ofNat 32 (14 + r.val))) a + S1x64.size a ≤ S64x64.size a
  k1_off36_inb : ∀ k1_t1 : Fin k1_t1_loop.trips, ∀ a, (k1_off36 k1_t1) a + S1x64.size a ≤ S64x64.size a
  k1_t2_ok : k1_t2_loop.OK
  k1_t3_ok : k1_t3_loop.OK
  k1_off37_inb : ∀ k1_t3 : Fin k1_t3_loop.trips, ∀ a, (k1_off37 k1_t3) a + S1x16.size a ≤ S64x64.size a
  k1_off38_inb : ∀ k1_t3 : Fin k1_t3_loop.trips, ∀ a, (k1_off38 k1_t3) a + S1x16.size a ≤ S64x64.size a
  k1_off39_inb : ∀ k1_t3 : Fin k1_t3_loop.trips, ∀ a, (k1_off39 k1_t3) a + S1x16.size a ≤ S64x64.size a
  k1_off40_inb : ∀ k1_t3 : Fin k1_t3_loop.trips, ∀ a, (k1_off40 k1_t3) a + S1x16.size a ≤ S64x64.size a
  k1_off41_inb : ∀ k1_t3 : Fin k1_t3_loop.trips, ∀ a, (k1_off41 k1_t3) a + S16.size a ≤ S8192.size a
  k1_t4_ok : k1_t4_loop.OK
  k1_off42_inb : ∀ k1_t4 : Fin k1_t4_loop.trips, ∀ a, (k1_off42 k1_t4) a + S16.size a ≤ S512.size a
  k1_off43_inb : ∀ k1_t4 : Fin k1_t4_loop.trips, ∀ a, (k1_off43 k1_t4) a + S1x64.size a ≤ S64x64.size a
  k1_off45_inb : ∀ k1_t4 : Fin k1_t4_loop.trips, ∀ (r : Fin 2), ∀ a, (k1_off45 k1_t4 (BitVec.ofNat 32 r.val)) a + S1x64.size a ≤ S64x64.size a
  k1_off47_inb : ∀ k1_t4 : Fin k1_t4_loop.trips, ∀ (r : Fin 2), ∀ a, (k1_off47 k1_t4 (BitVec.ofNat 32 (1 + r.val))) a + S1x64.size a ≤ S64x64.size a
  k1_off49_inb : ∀ k1_t4 : Fin k1_t4_loop.trips, ∀ (r : Fin 2), ∀ a, (k1_off49 k1_t4 (BitVec.ofNat 32 (2 + r.val))) a + S1x64.size a ≤ S64x64.size a
  k1_off51_inb : ∀ k1_t4 : Fin k1_t4_loop.trips, ∀ (r : Fin 2), ∀ a, (k1_off51 k1_t4 (BitVec.ofNat 32 (3 + r.val))) a + S1x64.size a ≤ S64x64.size a
  k1_off53_inb : ∀ k1_t4 : Fin k1_t4_loop.trips, ∀ (r : Fin 2), ∀ a, (k1_off53 k1_t4 (BitVec.ofNat 32 (4 + r.val))) a + S1x64.size a ≤ S64x64.size a
  k1_off55_inb : ∀ k1_t4 : Fin k1_t4_loop.trips, ∀ (r : Fin 2), ∀ a, (k1_off55 k1_t4 (BitVec.ofNat 32 (5 + r.val))) a + S1x64.size a ≤ S64x64.size a
  k1_off57_inb : ∀ k1_t4 : Fin k1_t4_loop.trips, ∀ (r : Fin 2), ∀ a, (k1_off57 k1_t4 (BitVec.ofNat 32 (6 + r.val))) a + S1x64.size a ≤ S64x64.size a
  k1_off59_inb : ∀ k1_t4 : Fin k1_t4_loop.trips, ∀ (r : Fin 2), ∀ a, (k1_off59 k1_t4 (BitVec.ofNat 32 (7 + r.val))) a + S1x64.size a ≤ S64x64.size a
  k1_off61_inb : ∀ k1_t4 : Fin k1_t4_loop.trips, ∀ (r : Fin 2), ∀ a, (k1_off61 k1_t4 (BitVec.ofNat 32 (8 + r.val))) a + S1x64.size a ≤ S64x64.size a
  k1_off63_inb : ∀ k1_t4 : Fin k1_t4_loop.trips, ∀ (r : Fin 2), ∀ a, (k1_off63 k1_t4 (BitVec.ofNat 32 (9 + r.val))) a + S1x64.size a ≤ S64x64.size a
  k1_off65_inb : ∀ k1_t4 : Fin k1_t4_loop.trips, ∀ (r : Fin 2), ∀ a, (k1_off65 k1_t4 (BitVec.ofNat 32 (10 + r.val))) a + S1x64.size a ≤ S64x64.size a
  k1_off67_inb : ∀ k1_t4 : Fin k1_t4_loop.trips, ∀ (r : Fin 2), ∀ a, (k1_off67 k1_t4 (BitVec.ofNat 32 (11 + r.val))) a + S1x64.size a ≤ S64x64.size a
  k1_off69_inb : ∀ k1_t4 : Fin k1_t4_loop.trips, ∀ (r : Fin 2), ∀ a, (k1_off69 k1_t4 (BitVec.ofNat 32 (12 + r.val))) a + S1x64.size a ≤ S64x64.size a
  k1_off71_inb : ∀ k1_t4 : Fin k1_t4_loop.trips, ∀ (r : Fin 2), ∀ a, (k1_off71 k1_t4 (BitVec.ofNat 32 (13 + r.val))) a + S1x64.size a ≤ S64x64.size a
  k1_off73_inb : ∀ k1_t4 : Fin k1_t4_loop.trips, ∀ (r : Fin 2), ∀ a, (k1_off73 k1_t4 (BitVec.ofNat 32 (14 + r.val))) a + S1x64.size a ≤ S64x64.size a
  k1_off75_inb : ∀ k1_t4 : Fin k1_t4_loop.trips, ∀ a, (k1_off75 k1_t4) a + S1x64.size a ≤ S64x64.size a
  k1_t5_ok : k1_t5_loop.OK
  k1_t6_ok : k1_t6_loop.OK
  k1_off76_inb : ∀ k1_t6 : Fin k1_t6_loop.trips, ∀ a, (k1_off76 k1_t6) a + S1x16.size a ≤ S64x64.size a
  k1_off77_inb : ∀ k1_t6 : Fin k1_t6_loop.trips, ∀ a, (k1_off77 k1_t6) a + S1x16.size a ≤ S64x64.size a
  k1_off78_inb : ∀ k1_t6 : Fin k1_t6_loop.trips, ∀ a, (k1_off78 k1_t6) a + S1x16.size a ≤ S64x64.size a
  k1_off79_inb : ∀ k1_t6 : Fin k1_t6_loop.trips, ∀ a, (k1_off79 k1_t6) a + S1x16.size a ≤ S64x64.size a
  k1_off80_inb : ∀ k1_t6 : Fin k1_t6_loop.trips, ∀ a, (k1_off80 k1_t6) a + S16.size a ≤ S8192.size a
  k1_t7_ok : k1_t7_loop.OK
  k1_off81_inb : ∀ k1_t7 : Fin k1_t7_loop.trips, ∀ a, (k1_off81 k1_t7) a + S16.size a ≤ S512.size a
  k1_off82_inb : ∀ k1_t7 : Fin k1_t7_loop.trips, ∀ a, (k1_off82 k1_t7) a + S1x64.size a ≤ S64x64.size a
  k1_off84_inb : ∀ k1_t7 : Fin k1_t7_loop.trips, ∀ (r : Fin 2), ∀ a, (k1_off84 k1_t7 (BitVec.ofNat 32 r.val)) a + S1x64.size a ≤ S64x64.size a
  k1_off86_inb : ∀ k1_t7 : Fin k1_t7_loop.trips, ∀ (r : Fin 2), ∀ a, (k1_off86 k1_t7 (BitVec.ofNat 32 (1 + r.val))) a + S1x64.size a ≤ S64x64.size a
  k1_off88_inb : ∀ k1_t7 : Fin k1_t7_loop.trips, ∀ (r : Fin 2), ∀ a, (k1_off88 k1_t7 (BitVec.ofNat 32 (2 + r.val))) a + S1x64.size a ≤ S64x64.size a
  k1_off90_inb : ∀ k1_t7 : Fin k1_t7_loop.trips, ∀ (r : Fin 2), ∀ a, (k1_off90 k1_t7 (BitVec.ofNat 32 (3 + r.val))) a + S1x64.size a ≤ S64x64.size a
  k1_off92_inb : ∀ k1_t7 : Fin k1_t7_loop.trips, ∀ (r : Fin 2), ∀ a, (k1_off92 k1_t7 (BitVec.ofNat 32 (4 + r.val))) a + S1x64.size a ≤ S64x64.size a
  k1_off94_inb : ∀ k1_t7 : Fin k1_t7_loop.trips, ∀ (r : Fin 2), ∀ a, (k1_off94 k1_t7 (BitVec.ofNat 32 (5 + r.val))) a + S1x64.size a ≤ S64x64.size a
  k1_off96_inb : ∀ k1_t7 : Fin k1_t7_loop.trips, ∀ (r : Fin 2), ∀ a, (k1_off96 k1_t7 (BitVec.ofNat 32 (6 + r.val))) a + S1x64.size a ≤ S64x64.size a
  k1_off98_inb : ∀ k1_t7 : Fin k1_t7_loop.trips, ∀ (r : Fin 2), ∀ a, (k1_off98 k1_t7 (BitVec.ofNat 32 (7 + r.val))) a + S1x64.size a ≤ S64x64.size a
  k1_off100_inb : ∀ k1_t7 : Fin k1_t7_loop.trips, ∀ (r : Fin 2), ∀ a, (k1_off100 k1_t7 (BitVec.ofNat 32 (8 + r.val))) a + S1x64.size a ≤ S64x64.size a
  k1_off102_inb : ∀ k1_t7 : Fin k1_t7_loop.trips, ∀ (r : Fin 2), ∀ a, (k1_off102 k1_t7 (BitVec.ofNat 32 (9 + r.val))) a + S1x64.size a ≤ S64x64.size a
  k1_off104_inb : ∀ k1_t7 : Fin k1_t7_loop.trips, ∀ (r : Fin 2), ∀ a, (k1_off104 k1_t7 (BitVec.ofNat 32 (10 + r.val))) a + S1x64.size a ≤ S64x64.size a
  k1_off106_inb : ∀ k1_t7 : Fin k1_t7_loop.trips, ∀ (r : Fin 2), ∀ a, (k1_off106 k1_t7 (BitVec.ofNat 32 (11 + r.val))) a + S1x64.size a ≤ S64x64.size a
  k1_off108_inb : ∀ k1_t7 : Fin k1_t7_loop.trips, ∀ (r : Fin 2), ∀ a, (k1_off108 k1_t7 (BitVec.ofNat 32 (12 + r.val))) a + S1x64.size a ≤ S64x64.size a
  k1_off110_inb : ∀ k1_t7 : Fin k1_t7_loop.trips, ∀ (r : Fin 2), ∀ a, (k1_off110 k1_t7 (BitVec.ofNat 32 (13 + r.val))) a + S1x64.size a ≤ S64x64.size a
  k1_off112_inb : ∀ k1_t7 : Fin k1_t7_loop.trips, ∀ (r : Fin 2), ∀ a, (k1_off112 k1_t7 (BitVec.ofNat 32 (14 + r.val))) a + S1x64.size a ≤ S64x64.size a
  k1_off114_inb : ∀ k1_t7 : Fin k1_t7_loop.trips, ∀ a, (k1_off114 k1_t7) a + S1x64.size a ≤ S64x64.size a
  k1_t8_ok : k1_t8_loop.OK
  k1_t9_ok : k1_t9_loop.OK
  k1_off115_inb : ∀ k1_t9 : Fin k1_t9_loop.trips, ∀ a, (k1_off115 k1_t9) a + S1x16.size a ≤ S64x64.size a
  k1_off116_inb : ∀ k1_t9 : Fin k1_t9_loop.trips, ∀ a, (k1_off116 k1_t9) a + S1x16.size a ≤ S64x64.size a
  k1_off117_inb : ∀ k1_t9 : Fin k1_t9_loop.trips, ∀ a, (k1_off117 k1_t9) a + S1x16.size a ≤ S64x64.size a
  k1_off118_inb : ∀ k1_t9 : Fin k1_t9_loop.trips, ∀ a, (k1_off118 k1_t9) a + S1x16.size a ≤ S64x64.size a
  k1_off119_inb : ∀ k1_t9 : Fin k1_t9_loop.trips, ∀ a, (k1_off119 k1_t9) a + S16.size a ≤ S8192.size a
  k1_t10_ok : k1_t10_loop.OK
  k1_off120_inb : ∀ k1_t10 : Fin k1_t10_loop.trips, ∀ a, (k1_off120 k1_t10) a + S16.size a ≤ S512.size a
  k1_off121_inb : ∀ k1_t10 : Fin k1_t10_loop.trips, ∀ a, (k1_off121 k1_t10) a + S1x64.size a ≤ S64x64.size a
  k1_off123_inb : ∀ k1_t10 : Fin k1_t10_loop.trips, ∀ (r : Fin 2), ∀ a, (k1_off123 k1_t10 (BitVec.ofNat 32 r.val)) a + S1x64.size a ≤ S64x64.size a
  k1_off125_inb : ∀ k1_t10 : Fin k1_t10_loop.trips, ∀ (r : Fin 2), ∀ a, (k1_off125 k1_t10 (BitVec.ofNat 32 (1 + r.val))) a + S1x64.size a ≤ S64x64.size a
  k1_off127_inb : ∀ k1_t10 : Fin k1_t10_loop.trips, ∀ (r : Fin 2), ∀ a, (k1_off127 k1_t10 (BitVec.ofNat 32 (2 + r.val))) a + S1x64.size a ≤ S64x64.size a
  k1_off129_inb : ∀ k1_t10 : Fin k1_t10_loop.trips, ∀ (r : Fin 2), ∀ a, (k1_off129 k1_t10 (BitVec.ofNat 32 (3 + r.val))) a + S1x64.size a ≤ S64x64.size a
  k1_off131_inb : ∀ k1_t10 : Fin k1_t10_loop.trips, ∀ (r : Fin 2), ∀ a, (k1_off131 k1_t10 (BitVec.ofNat 32 (4 + r.val))) a + S1x64.size a ≤ S64x64.size a
  k1_off133_inb : ∀ k1_t10 : Fin k1_t10_loop.trips, ∀ (r : Fin 2), ∀ a, (k1_off133 k1_t10 (BitVec.ofNat 32 (5 + r.val))) a + S1x64.size a ≤ S64x64.size a
  k1_off135_inb : ∀ k1_t10 : Fin k1_t10_loop.trips, ∀ (r : Fin 2), ∀ a, (k1_off135 k1_t10 (BitVec.ofNat 32 (6 + r.val))) a + S1x64.size a ≤ S64x64.size a
  k1_off137_inb : ∀ k1_t10 : Fin k1_t10_loop.trips, ∀ (r : Fin 2), ∀ a, (k1_off137 k1_t10 (BitVec.ofNat 32 (7 + r.val))) a + S1x64.size a ≤ S64x64.size a
  k1_off139_inb : ∀ k1_t10 : Fin k1_t10_loop.trips, ∀ (r : Fin 2), ∀ a, (k1_off139 k1_t10 (BitVec.ofNat 32 (8 + r.val))) a + S1x64.size a ≤ S64x64.size a
  k1_off141_inb : ∀ k1_t10 : Fin k1_t10_loop.trips, ∀ (r : Fin 2), ∀ a, (k1_off141 k1_t10 (BitVec.ofNat 32 (9 + r.val))) a + S1x64.size a ≤ S64x64.size a
  k1_off143_inb : ∀ k1_t10 : Fin k1_t10_loop.trips, ∀ (r : Fin 2), ∀ a, (k1_off143 k1_t10 (BitVec.ofNat 32 (10 + r.val))) a + S1x64.size a ≤ S64x64.size a
  k1_off145_inb : ∀ k1_t10 : Fin k1_t10_loop.trips, ∀ (r : Fin 2), ∀ a, (k1_off145 k1_t10 (BitVec.ofNat 32 (11 + r.val))) a + S1x64.size a ≤ S64x64.size a
  k1_off147_inb : ∀ k1_t10 : Fin k1_t10_loop.trips, ∀ (r : Fin 2), ∀ a, (k1_off147 k1_t10 (BitVec.ofNat 32 (12 + r.val))) a + S1x64.size a ≤ S64x64.size a
  k1_off149_inb : ∀ k1_t10 : Fin k1_t10_loop.trips, ∀ (r : Fin 2), ∀ a, (k1_off149 k1_t10 (BitVec.ofNat 32 (13 + r.val))) a + S1x64.size a ≤ S64x64.size a
  k1_off151_inb : ∀ k1_t10 : Fin k1_t10_loop.trips, ∀ (r : Fin 2), ∀ a, (k1_off151 k1_t10 (BitVec.ofNat 32 (14 + r.val))) a + S1x64.size a ≤ S64x64.size a
  k1_off153_inb : ∀ k1_t10 : Fin k1_t10_loop.trips, ∀ a, (k1_off153 k1_t10) a + S1x64.size a ≤ S64x64.size a
  k1_t11_ok : k1_t11_loop.OK
  k1_t12_ok : k1_t12_loop.OK
  k1_off154_inb : ∀ k1_t12 : Fin k1_t12_loop.trips, ∀ a, (k1_off154 k1_t12) a + S1x16.size a ≤ S64x64.size a
  k1_off155_inb : ∀ k1_t12 : Fin k1_t12_loop.trips, ∀ a, (k1_off155 k1_t12) a + S1x16.size a ≤ S64x64.size a
  k1_off156_inb : ∀ k1_t12 : Fin k1_t12_loop.trips, ∀ a, (k1_off156 k1_t12) a + S1x16.size a ≤ S64x64.size a
  k1_off157_inb : ∀ k1_t12 : Fin k1_t12_loop.trips, ∀ a, (k1_off157 k1_t12) a + S1x16.size a ≤ S64x64.size a
  k1_off158_inb : ∀ k1_t12 : Fin k1_t12_loop.trips, ∀ a, (k1_off158 k1_t12) a + S16.size a ≤ S8192.size a
  k1_t13_ok : k1_t13_loop.OK
  k1_off159_inb : ∀ k1_t13 : Fin k1_t13_loop.trips, ∀ a, (k1_off159 k1_t13) a + S16.size a ≤ S512.size a
  k1_off160_inb : ∀ k1_t13 : Fin k1_t13_loop.trips, ∀ a, (k1_off160 k1_t13) a + S1x64.size a ≤ S64x64.size a
  k1_off162_inb : ∀ k1_t13 : Fin k1_t13_loop.trips, ∀ (r : Fin 2), ∀ a, (k1_off162 k1_t13 (BitVec.ofNat 32 r.val)) a + S1x64.size a ≤ S64x64.size a
  k1_off164_inb : ∀ k1_t13 : Fin k1_t13_loop.trips, ∀ (r : Fin 2), ∀ a, (k1_off164 k1_t13 (BitVec.ofNat 32 (1 + r.val))) a + S1x64.size a ≤ S64x64.size a
  k1_off166_inb : ∀ k1_t13 : Fin k1_t13_loop.trips, ∀ (r : Fin 2), ∀ a, (k1_off166 k1_t13 (BitVec.ofNat 32 (2 + r.val))) a + S1x64.size a ≤ S64x64.size a
  k1_off168_inb : ∀ k1_t13 : Fin k1_t13_loop.trips, ∀ (r : Fin 2), ∀ a, (k1_off168 k1_t13 (BitVec.ofNat 32 (3 + r.val))) a + S1x64.size a ≤ S64x64.size a
  k1_off170_inb : ∀ k1_t13 : Fin k1_t13_loop.trips, ∀ (r : Fin 2), ∀ a, (k1_off170 k1_t13 (BitVec.ofNat 32 (4 + r.val))) a + S1x64.size a ≤ S64x64.size a
  k1_off172_inb : ∀ k1_t13 : Fin k1_t13_loop.trips, ∀ (r : Fin 2), ∀ a, (k1_off172 k1_t13 (BitVec.ofNat 32 (5 + r.val))) a + S1x64.size a ≤ S64x64.size a
  k1_off174_inb : ∀ k1_t13 : Fin k1_t13_loop.trips, ∀ (r : Fin 2), ∀ a, (k1_off174 k1_t13 (BitVec.ofNat 32 (6 + r.val))) a + S1x64.size a ≤ S64x64.size a
  k1_off176_inb : ∀ k1_t13 : Fin k1_t13_loop.trips, ∀ (r : Fin 2), ∀ a, (k1_off176 k1_t13 (BitVec.ofNat 32 (7 + r.val))) a + S1x64.size a ≤ S64x64.size a
  k1_off178_inb : ∀ k1_t13 : Fin k1_t13_loop.trips, ∀ (r : Fin 2), ∀ a, (k1_off178 k1_t13 (BitVec.ofNat 32 (8 + r.val))) a + S1x64.size a ≤ S64x64.size a
  k1_off180_inb : ∀ k1_t13 : Fin k1_t13_loop.trips, ∀ (r : Fin 2), ∀ a, (k1_off180 k1_t13 (BitVec.ofNat 32 (9 + r.val))) a + S1x64.size a ≤ S64x64.size a
  k1_off182_inb : ∀ k1_t13 : Fin k1_t13_loop.trips, ∀ (r : Fin 2), ∀ a, (k1_off182 k1_t13 (BitVec.ofNat 32 (10 + r.val))) a + S1x64.size a ≤ S64x64.size a
  k1_off184_inb : ∀ k1_t13 : Fin k1_t13_loop.trips, ∀ (r : Fin 2), ∀ a, (k1_off184 k1_t13 (BitVec.ofNat 32 (11 + r.val))) a + S1x64.size a ≤ S64x64.size a
  k1_off186_inb : ∀ k1_t13 : Fin k1_t13_loop.trips, ∀ (r : Fin 2), ∀ a, (k1_off186 k1_t13 (BitVec.ofNat 32 (12 + r.val))) a + S1x64.size a ≤ S64x64.size a
  k1_off188_inb : ∀ k1_t13 : Fin k1_t13_loop.trips, ∀ (r : Fin 2), ∀ a, (k1_off188 k1_t13 (BitVec.ofNat 32 (13 + r.val))) a + S1x64.size a ≤ S64x64.size a
  k1_off190_inb : ∀ k1_t13 : Fin k1_t13_loop.trips, ∀ (r : Fin 2), ∀ a, (k1_off190 k1_t13 (BitVec.ofNat 32 (14 + r.val))) a + S1x64.size a ≤ S64x64.size a
  k1_off192_inb : ∀ k1_t13 : Fin k1_t13_loop.trips, ∀ a, (k1_off192 k1_t13) a + S1x64.size a ≤ S64x64.size a
  k1_t14_ok : k1_t14_loop.OK
  k1_t15_ok : k1_t15_loop.OK
  k1_off193_inb : ∀ k1_t15 : Fin k1_t15_loop.trips, ∀ a, (k1_off193 k1_t15) a + S1x16.size a ≤ S64x64.size a
  k1_off194_inb : ∀ k1_t15 : Fin k1_t15_loop.trips, ∀ a, (k1_off194 k1_t15) a + S1x16.size a ≤ S64x64.size a
  k1_off195_inb : ∀ k1_t15 : Fin k1_t15_loop.trips, ∀ a, (k1_off195 k1_t15) a + S1x16.size a ≤ S64x64.size a
  k1_off196_inb : ∀ k1_t15 : Fin k1_t15_loop.trips, ∀ a, (k1_off196 k1_t15) a + S1x16.size a ≤ S64x64.size a
  k1_off197_inb : ∀ k1_t15 : Fin k1_t15_loop.trips, ∀ a, (k1_off197 k1_t15) a + S16.size a ≤ S8192.size a
  k1_t16_ok : k1_t16_loop.OK
  k1_off198_inb : ∀ k1_t16 : Fin k1_t16_loop.trips, ∀ a, (k1_off198 k1_t16) a + S16.size a ≤ S512.size a
  k1_off199_inb : ∀ k1_t16 : Fin k1_t16_loop.trips, ∀ a, (k1_off199 k1_t16) a + S1x64.size a ≤ S64x64.size a
  k1_off201_inb : ∀ k1_t16 : Fin k1_t16_loop.trips, ∀ (r : Fin 2), ∀ a, (k1_off201 k1_t16 (BitVec.ofNat 32 r.val)) a + S1x64.size a ≤ S64x64.size a
  k1_off203_inb : ∀ k1_t16 : Fin k1_t16_loop.trips, ∀ (r : Fin 2), ∀ a, (k1_off203 k1_t16 (BitVec.ofNat 32 (1 + r.val))) a + S1x64.size a ≤ S64x64.size a
  k1_off205_inb : ∀ k1_t16 : Fin k1_t16_loop.trips, ∀ (r : Fin 2), ∀ a, (k1_off205 k1_t16 (BitVec.ofNat 32 (2 + r.val))) a + S1x64.size a ≤ S64x64.size a
  k1_off207_inb : ∀ k1_t16 : Fin k1_t16_loop.trips, ∀ (r : Fin 2), ∀ a, (k1_off207 k1_t16 (BitVec.ofNat 32 (3 + r.val))) a + S1x64.size a ≤ S64x64.size a
  k1_off209_inb : ∀ k1_t16 : Fin k1_t16_loop.trips, ∀ (r : Fin 2), ∀ a, (k1_off209 k1_t16 (BitVec.ofNat 32 (4 + r.val))) a + S1x64.size a ≤ S64x64.size a
  k1_off211_inb : ∀ k1_t16 : Fin k1_t16_loop.trips, ∀ (r : Fin 2), ∀ a, (k1_off211 k1_t16 (BitVec.ofNat 32 (5 + r.val))) a + S1x64.size a ≤ S64x64.size a
  k1_off213_inb : ∀ k1_t16 : Fin k1_t16_loop.trips, ∀ (r : Fin 2), ∀ a, (k1_off213 k1_t16 (BitVec.ofNat 32 (6 + r.val))) a + S1x64.size a ≤ S64x64.size a
  k1_off215_inb : ∀ k1_t16 : Fin k1_t16_loop.trips, ∀ (r : Fin 2), ∀ a, (k1_off215 k1_t16 (BitVec.ofNat 32 (7 + r.val))) a + S1x64.size a ≤ S64x64.size a
  k1_off217_inb : ∀ k1_t16 : Fin k1_t16_loop.trips, ∀ (r : Fin 2), ∀ a, (k1_off217 k1_t16 (BitVec.ofNat 32 (8 + r.val))) a + S1x64.size a ≤ S64x64.size a
  k1_off219_inb : ∀ k1_t16 : Fin k1_t16_loop.trips, ∀ (r : Fin 2), ∀ a, (k1_off219 k1_t16 (BitVec.ofNat 32 (9 + r.val))) a + S1x64.size a ≤ S64x64.size a
  k1_off221_inb : ∀ k1_t16 : Fin k1_t16_loop.trips, ∀ (r : Fin 2), ∀ a, (k1_off221 k1_t16 (BitVec.ofNat 32 (10 + r.val))) a + S1x64.size a ≤ S64x64.size a
  k1_off223_inb : ∀ k1_t16 : Fin k1_t16_loop.trips, ∀ (r : Fin 2), ∀ a, (k1_off223 k1_t16 (BitVec.ofNat 32 (11 + r.val))) a + S1x64.size a ≤ S64x64.size a
  k1_off225_inb : ∀ k1_t16 : Fin k1_t16_loop.trips, ∀ (r : Fin 2), ∀ a, (k1_off225 k1_t16 (BitVec.ofNat 32 (12 + r.val))) a + S1x64.size a ≤ S64x64.size a
  k1_off227_inb : ∀ k1_t16 : Fin k1_t16_loop.trips, ∀ (r : Fin 2), ∀ a, (k1_off227 k1_t16 (BitVec.ofNat 32 (13 + r.val))) a + S1x64.size a ≤ S64x64.size a
  k1_off229_inb : ∀ k1_t16 : Fin k1_t16_loop.trips, ∀ (r : Fin 2), ∀ a, (k1_off229 k1_t16 (BitVec.ofNat 32 (14 + r.val))) a + S1x64.size a ≤ S64x64.size a
  k1_off231_inb : ∀ k1_t16 : Fin k1_t16_loop.trips, ∀ a, (k1_off231 k1_t16) a + S1x64.size a ≤ S64x64.size a
  k1_t17_ok : k1_t17_loop.OK
  k1_t18_ok : k1_t18_loop.OK
  k1_off232_inb : ∀ k1_t18 : Fin k1_t18_loop.trips, ∀ a, (k1_off232 k1_t18) a + S1x16.size a ≤ S64x64.size a
  k1_off233_inb : ∀ k1_t18 : Fin k1_t18_loop.trips, ∀ a, (k1_off233 k1_t18) a + S1x16.size a ≤ S64x64.size a
  k1_off234_inb : ∀ k1_t18 : Fin k1_t18_loop.trips, ∀ a, (k1_off234 k1_t18) a + S1x16.size a ≤ S64x64.size a
  k1_off235_inb : ∀ k1_t18 : Fin k1_t18_loop.trips, ∀ a, (k1_off235 k1_t18) a + S1x16.size a ≤ S64x64.size a
  k1_off236_inb : ∀ k1_t18 : Fin k1_t18_loop.trips, ∀ a, (k1_off236 k1_t18) a + S16.size a ≤ S8192.size a
  k1_t19_ok : k1_t19_loop.OK
  k1_off237_inb : ∀ k1_t19 : Fin k1_t19_loop.trips, ∀ a, (k1_off237 k1_t19) a + S16.size a ≤ S512.size a
  k1_off238_inb : ∀ k1_t19 : Fin k1_t19_loop.trips, ∀ a, (k1_off238 k1_t19) a + S1x64.size a ≤ S64x64.size a
  k1_off240_inb : ∀ k1_t19 : Fin k1_t19_loop.trips, ∀ (r : Fin 2), ∀ a, (k1_off240 k1_t19 (BitVec.ofNat 32 r.val)) a + S1x64.size a ≤ S64x64.size a
  k1_off242_inb : ∀ k1_t19 : Fin k1_t19_loop.trips, ∀ (r : Fin 2), ∀ a, (k1_off242 k1_t19 (BitVec.ofNat 32 (1 + r.val))) a + S1x64.size a ≤ S64x64.size a
  k1_off244_inb : ∀ k1_t19 : Fin k1_t19_loop.trips, ∀ (r : Fin 2), ∀ a, (k1_off244 k1_t19 (BitVec.ofNat 32 (2 + r.val))) a + S1x64.size a ≤ S64x64.size a
  k1_off246_inb : ∀ k1_t19 : Fin k1_t19_loop.trips, ∀ (r : Fin 2), ∀ a, (k1_off246 k1_t19 (BitVec.ofNat 32 (3 + r.val))) a + S1x64.size a ≤ S64x64.size a
  k1_off248_inb : ∀ k1_t19 : Fin k1_t19_loop.trips, ∀ (r : Fin 2), ∀ a, (k1_off248 k1_t19 (BitVec.ofNat 32 (4 + r.val))) a + S1x64.size a ≤ S64x64.size a
  k1_off250_inb : ∀ k1_t19 : Fin k1_t19_loop.trips, ∀ (r : Fin 2), ∀ a, (k1_off250 k1_t19 (BitVec.ofNat 32 (5 + r.val))) a + S1x64.size a ≤ S64x64.size a
  k1_off252_inb : ∀ k1_t19 : Fin k1_t19_loop.trips, ∀ (r : Fin 2), ∀ a, (k1_off252 k1_t19 (BitVec.ofNat 32 (6 + r.val))) a + S1x64.size a ≤ S64x64.size a
  k1_off254_inb : ∀ k1_t19 : Fin k1_t19_loop.trips, ∀ (r : Fin 2), ∀ a, (k1_off254 k1_t19 (BitVec.ofNat 32 (7 + r.val))) a + S1x64.size a ≤ S64x64.size a
  k1_off256_inb : ∀ k1_t19 : Fin k1_t19_loop.trips, ∀ (r : Fin 2), ∀ a, (k1_off256 k1_t19 (BitVec.ofNat 32 (8 + r.val))) a + S1x64.size a ≤ S64x64.size a
  k1_off258_inb : ∀ k1_t19 : Fin k1_t19_loop.trips, ∀ (r : Fin 2), ∀ a, (k1_off258 k1_t19 (BitVec.ofNat 32 (9 + r.val))) a + S1x64.size a ≤ S64x64.size a
  k1_off260_inb : ∀ k1_t19 : Fin k1_t19_loop.trips, ∀ (r : Fin 2), ∀ a, (k1_off260 k1_t19 (BitVec.ofNat 32 (10 + r.val))) a + S1x64.size a ≤ S64x64.size a
  k1_off262_inb : ∀ k1_t19 : Fin k1_t19_loop.trips, ∀ (r : Fin 2), ∀ a, (k1_off262 k1_t19 (BitVec.ofNat 32 (11 + r.val))) a + S1x64.size a ≤ S64x64.size a
  k1_off264_inb : ∀ k1_t19 : Fin k1_t19_loop.trips, ∀ (r : Fin 2), ∀ a, (k1_off264 k1_t19 (BitVec.ofNat 32 (12 + r.val))) a + S1x64.size a ≤ S64x64.size a
  k1_off266_inb : ∀ k1_t19 : Fin k1_t19_loop.trips, ∀ (r : Fin 2), ∀ a, (k1_off266 k1_t19 (BitVec.ofNat 32 (13 + r.val))) a + S1x64.size a ≤ S64x64.size a
  k1_off268_inb : ∀ k1_t19 : Fin k1_t19_loop.trips, ∀ (r : Fin 2), ∀ a, (k1_off268 k1_t19 (BitVec.ofNat 32 (14 + r.val))) a + S1x64.size a ≤ S64x64.size a
  k1_off270_inb : ∀ k1_t19 : Fin k1_t19_loop.trips, ∀ a, (k1_off270 k1_t19) a + S1x64.size a ≤ S64x64.size a
  k1_t20_ok : k1_t20_loop.OK
  k1_t21_ok : k1_t21_loop.OK
  k1_off271_inb : ∀ k1_t21 : Fin k1_t21_loop.trips, ∀ a, (k1_off271 k1_t21) a + S1x16.size a ≤ S64x64.size a
  k1_off272_inb : ∀ k1_t21 : Fin k1_t21_loop.trips, ∀ a, (k1_off272 k1_t21) a + S1x16.size a ≤ S64x64.size a
  k1_off273_inb : ∀ k1_t21 : Fin k1_t21_loop.trips, ∀ a, (k1_off273 k1_t21) a + S1x16.size a ≤ S64x64.size a
  k1_off274_inb : ∀ k1_t21 : Fin k1_t21_loop.trips, ∀ a, (k1_off274 k1_t21) a + S1x16.size a ≤ S64x64.size a
  k1_off275_inb : ∀ k1_t21 : Fin k1_t21_loop.trips, ∀ a, (k1_off275 k1_t21) a + S16.size a ≤ S8192.size a
  k1_t22_ok : k1_t22_loop.OK
  k1_off276_inb : ∀ k1_t22 : Fin k1_t22_loop.trips, ∀ a, (k1_off276 k1_t22) a + S16.size a ≤ S512.size a
  k1_off277_inb : ∀ k1_t22 : Fin k1_t22_loop.trips, ∀ a, (k1_off277 k1_t22) a + S1x64.size a ≤ S64x64.size a
  k1_off279_inb : ∀ k1_t22 : Fin k1_t22_loop.trips, ∀ (r : Fin 2), ∀ a, (k1_off279 k1_t22 (BitVec.ofNat 32 r.val)) a + S1x64.size a ≤ S64x64.size a
  k1_off281_inb : ∀ k1_t22 : Fin k1_t22_loop.trips, ∀ (r : Fin 2), ∀ a, (k1_off281 k1_t22 (BitVec.ofNat 32 (1 + r.val))) a + S1x64.size a ≤ S64x64.size a
  k1_off283_inb : ∀ k1_t22 : Fin k1_t22_loop.trips, ∀ (r : Fin 2), ∀ a, (k1_off283 k1_t22 (BitVec.ofNat 32 (2 + r.val))) a + S1x64.size a ≤ S64x64.size a
  k1_off285_inb : ∀ k1_t22 : Fin k1_t22_loop.trips, ∀ (r : Fin 2), ∀ a, (k1_off285 k1_t22 (BitVec.ofNat 32 (3 + r.val))) a + S1x64.size a ≤ S64x64.size a
  k1_off287_inb : ∀ k1_t22 : Fin k1_t22_loop.trips, ∀ (r : Fin 2), ∀ a, (k1_off287 k1_t22 (BitVec.ofNat 32 (4 + r.val))) a + S1x64.size a ≤ S64x64.size a
  k1_off289_inb : ∀ k1_t22 : Fin k1_t22_loop.trips, ∀ (r : Fin 2), ∀ a, (k1_off289 k1_t22 (BitVec.ofNat 32 (5 + r.val))) a + S1x64.size a ≤ S64x64.size a
  k1_off291_inb : ∀ k1_t22 : Fin k1_t22_loop.trips, ∀ (r : Fin 2), ∀ a, (k1_off291 k1_t22 (BitVec.ofNat 32 (6 + r.val))) a + S1x64.size a ≤ S64x64.size a
  k1_off293_inb : ∀ k1_t22 : Fin k1_t22_loop.trips, ∀ (r : Fin 2), ∀ a, (k1_off293 k1_t22 (BitVec.ofNat 32 (7 + r.val))) a + S1x64.size a ≤ S64x64.size a
  k1_off295_inb : ∀ k1_t22 : Fin k1_t22_loop.trips, ∀ (r : Fin 2), ∀ a, (k1_off295 k1_t22 (BitVec.ofNat 32 (8 + r.val))) a + S1x64.size a ≤ S64x64.size a
  k1_off297_inb : ∀ k1_t22 : Fin k1_t22_loop.trips, ∀ (r : Fin 2), ∀ a, (k1_off297 k1_t22 (BitVec.ofNat 32 (9 + r.val))) a + S1x64.size a ≤ S64x64.size a
  k1_off299_inb : ∀ k1_t22 : Fin k1_t22_loop.trips, ∀ (r : Fin 2), ∀ a, (k1_off299 k1_t22 (BitVec.ofNat 32 (10 + r.val))) a + S1x64.size a ≤ S64x64.size a
  k1_off301_inb : ∀ k1_t22 : Fin k1_t22_loop.trips, ∀ (r : Fin 2), ∀ a, (k1_off301 k1_t22 (BitVec.ofNat 32 (11 + r.val))) a + S1x64.size a ≤ S64x64.size a
  k1_off303_inb : ∀ k1_t22 : Fin k1_t22_loop.trips, ∀ (r : Fin 2), ∀ a, (k1_off303 k1_t22 (BitVec.ofNat 32 (12 + r.val))) a + S1x64.size a ≤ S64x64.size a
  k1_off305_inb : ∀ k1_t22 : Fin k1_t22_loop.trips, ∀ (r : Fin 2), ∀ a, (k1_off305 k1_t22 (BitVec.ofNat 32 (13 + r.val))) a + S1x64.size a ≤ S64x64.size a
  k1_off307_inb : ∀ k1_t22 : Fin k1_t22_loop.trips, ∀ (r : Fin 2), ∀ a, (k1_off307 k1_t22 (BitVec.ofNat 32 (14 + r.val))) a + S1x64.size a ≤ S64x64.size a
  k1_off309_inb : ∀ k1_t22 : Fin k1_t22_loop.trips, ∀ a, (k1_off309 k1_t22) a + S1x64.size a ≤ S64x64.size a
  k1_t23_ok : k1_t23_loop.OK
  k1_t24_ok : k1_t24_loop.OK
  k1_off310_inb : ∀ k1_t24 : Fin k1_t24_loop.trips, ∀ a, (k1_off310 k1_t24) a + S1x16.size a ≤ S64x64.size a
  k1_off311_inb : ∀ k1_t24 : Fin k1_t24_loop.trips, ∀ a, (k1_off311 k1_t24) a + S1x16.size a ≤ S64x64.size a
  k1_off312_inb : ∀ k1_t24 : Fin k1_t24_loop.trips, ∀ a, (k1_off312 k1_t24) a + S1x16.size a ≤ S64x64.size a
  k1_off313_inb : ∀ k1_t24 : Fin k1_t24_loop.trips, ∀ a, (k1_off313 k1_t24) a + S1x16.size a ≤ S64x64.size a
  k1_off314_inb : ∀ k1_t24 : Fin k1_t24_loop.trips, ∀ a, (k1_off314 k1_t24) a + S16.size a ≤ S8192.size a
  k1_off315_inb : ∀ i : grid1.Coords, ∀ a, (k1_off315 i) a + S8192.size a ≤ S262144.size a

class K2.Facts₀ : Prop where
  hstage2_0 : ∀ j, (stage2_0 j).IsWhole
  hstage2_1 : ∀ j, (stage2_1 j).IsWhole
  hstage2_2 : ∀ j, (stage2_2 j).IsWhole

class Shapes1.Facts₀ : Prop where
  shapeCasts_S16384x5_S81920 : S16384x5.ShapeCasts S81920
  h_S16 : 0 < S16.numel
  shapeCasts_S16_S16 : S16.ShapeCasts S16
  slices_S16_o0_S1 : S16.Slices ![0] S1
  inpos_S1_p0 : ∀ a, (![0] : Fin 1 → Nat) a < S1.size a
  squeezes_S1x64_S64 : S1x64.Squeezes S64
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S64x64_S1x64_0_0 : ∀ a, (![0, 0] : Fin 2 → Nat) a + S1x64.size a ≤ S64x64.size a
  inb_S1000000x64_S1x64_0_0 : ∀ a, (![0, 0] : Fin 2 → Nat) a + S1x64.size a ≤ S1000000x64.size a
  h_S1x16 : 0 < S1x16.numel
  shapeCasts_S1x16_S16 : S1x16.ShapeCasts S16
  shapeCasts_S1310720_S10240x128 : S1310720.ShapeCasts S10240x128
  shapeCasts_S262144_S2048x128 : S262144.ShapeCasts S2048x128
  iota_S128x8_d0_w32 : S128x8.Iotas .tc 32 [0]
  natLt_1_32 : 1 < 32
  iota_S128x8_d1_w32 : S128x8.Iotas .tc 32 [1]
  inb_S10240x128_S10240x128_0_0 : ∀ a, (![0, 0] : Fin 2 → Nat) a + S10240x128.size a ≤ S10240x128.size a
  h_S10240x128 : 0 < S10240x128.numel
  shapeCasts_S10240x128_S10240x128 : S10240x128.ShapeCasts S10240x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S10240x8_S1x10240x8 : S10240x8.ShapeCasts S1x10240x8
  reduces_S1x10240x8_S1 : S1x10240x8.Reduces [1, 2] S1
  shapeCasts_S1_S1x1x1 : S1.ShapeCasts S1x1x1
  inpos_S1x1x1_p0_0_0 : ∀ a, (![0, 0, 0] : Fin 3 → Nat) a < S1x1x1.size a
  shapeCasts_S2048x8_S1x2048x8 : S2048x8.ShapeCasts S1x2048x8
  reduces_S1x2048x8_S1 : S1x2048x8.Reduces [1, 2] S1
  inb_S1x1_S1x1_0_0 : ∀ a, (![0, 0] : Fin 2 → Nat) a + S1x1.size a ≤ S1x1.size a
  numel1_S1x1 : S1x1.numel = 1
  shapeCasts_S1x1_S_ : S1x1.ShapeCasts S_
  dot_S10240x128_S128x8_S10240x8_1_0_0_1_n_n_wf : DotDims.WF S10240x128 S128x8 S10240x8 [1] [0] [0] [1] [] []
  dot_S2048x128_S128x8_S2048x8_1_0_0_1_n_n_wf : DotDims.WF S2048x128 S128x8 S2048x8 [1] [0] [0] [1] [] []
  hcc0_scratch5 : 0 + S_.numel ≤ 26
  hcc0_scoped0 : 1 + S_.numel ≤ 26
  hcc0_scoped1 : 2 + S_.numel ≤ 26
  hcc0_scoped2 : 3 + S_.numel ≤ 26
  hcc0_scoped3 : 4 + S_.numel ≤ 26
  hcc0_scoped4 : 5 + S_.numel ≤ 26
  hcc0_scoped5 : 6 + S_.numel ≤ 26
  hcc0_scoped6 : 7 + S_.numel ≤ 26
  hcc0_scoped7 : 8 + S_.numel ≤ 26
  hcc0_scoped8 : 9 + S_.numel ≤ 26
  hcc0_scoped9 : 10 + S_.numel ≤ 26
  hcc0_scoped10 : 11 + S_.numel ≤ 26
  hcc1_scratch4 : 12 + S_.numel ≤ 26
  hcc1_scoped0 : 13 + S_.numel ≤ 26
  hcc1_scoped1 : 14 + S_.numel ≤ 26
  hcc1_scoped2 : 15 + S_.numel ≤ 26
  hcc1_scoped3 : 16 + S_.numel ≤ 26
  hcc1_scoped4 : 17 + S_.numel ≤ 26
  hcc1_scoped5 : 18 + S_.numel ≤ 26
  hcc1_scoped6 : 19 + S_.numel ≤ 26
  hcc1_scoped7 : 20 + S_.numel ≤ 26
  hcc1_scoped8 : 21 + S_.numel ≤ 26
  hcc1_scoped9 : 22 + S_.numel ≤ 26
  hscKind : ∀ q, scKind q ≠ .tc
  hscCore : ∀ q, scNCore q ≤ τ.nSC
  hscSub : ∀ q, scNSub q ≤ τ.nSub

class Facts₀ : Prop where
  k0_r1 : K0.R1.Facts₀
  k0_r2 : K0.R2.Facts₀
  k1 : K1.Facts₀
  k2 : K2.Facts₀
  shapes1 : Shapes1.Facts₀
attribute [instance] Facts₀.k0_r1 Facts₀.k0_r2 Facts₀.k1 Facts₀.k2 Facts₀.shapes1

variable [Facts₀]

abbrev cc0_scratch5 : DmaSems sig S_ := SemArray.consecutive 0 S_ hcc0_scratch5
abbrev cc0_scoped0 : DmaSems sig S_ := SemArray.consecutive 1 S_ hcc0_scoped0
abbrev cc0_scoped1 : DmaSems sig S_ := SemArray.consecutive 2 S_ hcc0_scoped1
abbrev cc0_scoped2 : DmaSems sig S_ := SemArray.consecutive 3 S_ hcc0_scoped2
abbrev cc0_scoped3 : DmaSems sig S_ := SemArray.consecutive 4 S_ hcc0_scoped3
abbrev cc0_scoped4 : DmaSems sig S_ := SemArray.consecutive 5 S_ hcc0_scoped4
abbrev cc0_scoped5 : DmaSems sig S_ := SemArray.consecutive 6 S_ hcc0_scoped5
abbrev cc0_scoped6 : DmaSems sig S_ := SemArray.consecutive 7 S_ hcc0_scoped6
abbrev cc0_scoped7 : DmaSems sig S_ := SemArray.consecutive 8 S_ hcc0_scoped7
abbrev cc0_scoped8 : DmaSems sig S_ := SemArray.consecutive 9 S_ hcc0_scoped8
abbrev cc0_scoped9 : DmaSems sig S_ := SemArray.consecutive 10 S_ hcc0_scoped9
abbrev cc0_scoped10 : DmaSems sig S_ := SemArray.consecutive 11 S_ hcc0_scoped10
abbrev cc1_scratch4 : DmaSems sig S_ := SemArray.consecutive 12 S_ hcc1_scratch4
abbrev cc1_scoped0 : DmaSems sig S_ := SemArray.consecutive 13 S_ hcc1_scoped0
abbrev cc1_scoped1 : DmaSems sig S_ := SemArray.consecutive 14 S_ hcc1_scoped1
abbrev cc1_scoped2 : DmaSems sig S_ := SemArray.consecutive 15 S_ hcc1_scoped2
abbrev cc1_scoped3 : DmaSems sig S_ := SemArray.consecutive 16 S_ hcc1_scoped3
abbrev cc1_scoped4 : DmaSems sig S_ := SemArray.consecutive 17 S_ hcc1_scoped4
abbrev cc1_scoped5 : DmaSems sig S_ := SemArray.consecutive 18 S_ hcc1_scoped5
abbrev cc1_scoped6 : DmaSems sig S_ := SemArray.consecutive 19 S_ hcc1_scoped6
abbrev cc1_scoped7 : DmaSems sig S_ := SemArray.consecutive 20 S_ hcc1_scoped7
abbrev cc1_scoped8 : DmaSems sig S_ := SemArray.consecutive 21 S_ hcc1_scoped8
abbrev cc1_scoped9 : DmaSems sig S_ := SemArray.consecutive 22 S_ hcc1_scoped9
def dot_S10240x128_S128x8_S10240x8_1_0_0_1_n_n : DotDims S10240x128 S128x8 S10240x8 where
  lhsContracting := [1]
  rhsContracting := [0]
  lhsNonContracting := [0]
  rhsNonContracting := [1]
  lhsBatch := []
  rhsBatch := []
  wf := dot_S10240x128_S128x8_S10240x8_1_0_0_1_n_n_wf
def dot_S2048x128_S128x8_S2048x8_1_0_0_1_n_n : DotDims S2048x128 S128x8 S2048x8 where
  lhsContracting := [1]
  rhsContracting := [0]
  lhsNonContracting := [0]
  rhsNonContracting := [1]
  lhsBatch := []
  rhsBatch := []
  wf := dot_S2048x128_S128x8_S2048x8_1_0_0_1_n_n_wf

abbrev win2_0 : Pipeline.Window sig grid2 :=
  Pipeline.Window.whole (Memref.whole main_v3) false false (stage2_0 0) (sem2_0 0) (Memref.isWhole_whole _) (hstage2_0 0)

abbrev win2_1 : Pipeline.Window sig grid2 :=
  Pipeline.Window.whole (Memref.whole main_v4) false false (stage2_1 0) (sem2_1 0) (Memref.isWhole_whole _) (hstage2_1 0)

abbrev win2_2 : Pipeline.Window sig grid2 :=
  Pipeline.Window.whole (Memref.whole main_v5) true false (stage2_2 0) (sem2_2 0) (Memref.isWhole_whole _) (hstage2_2 0)

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16384 : Shape := ⟨1, ![16384]⟩
abbrev S16384x5 : Shape := ⟨2, ![16384, 5]⟩
abbrev S1000000x64 : Shape := ⟨2, ![1000000, 64]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩
abbrev S16384x5x1 : Shape := ⟨3, ![16384, 5, 1]⟩
abbrev S1x1x1 : Shape := ⟨3, ![1, 1, 1]⟩
abbrev S16384x5x64 : Shape := ⟨3, ![16384, 5, 64]⟩

abbrev nBuf : Space → Nat
  | .hbm => 105
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384x5, .i32⟩
  | .hbm, ⟨3, _⟩ => ⟨S1000000x64, .f32⟩
  | .hbm, ⟨4, _⟩ => ⟨S1000000x64, .f32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S1, .i32⟩
  | .hbm, ⟨14, _⟩ => ⟨S_, .i32⟩
  | .hbm, ⟨15, _⟩ => ⟨S16384x1, .i32⟩
  | .hbm, ⟨16, _⟩ => ⟨S16384x1, .i1⟩
  | .hbm, ⟨17, _⟩ => ⟨S1x1, .i32⟩
  | .hbm, ⟨18, _⟩ => ⟨S16384x1, .i32⟩
  | .hbm, ⟨19, _⟩ => ⟨S16384x1, .i1⟩
  | .hbm, ⟨20, _⟩ => ⟨S16384x1, .i1⟩
  | .hbm, ⟨21, _⟩ => ⟨S_, .i1⟩
  | .hbm, ⟨22, _⟩ => ⟨S16384, .i1⟩
  | .hbm, ⟨23, _⟩ => ⟨S16384x64, .f32⟩
  | .hbm, ⟨24, _⟩ => ⟨S16384x64, .i1⟩
  | .hbm, ⟨25, _⟩ => ⟨S_, .f32⟩
  | .hbm, ⟨26, _⟩ => ⟨S16384x64, .f32⟩
  | .hbm, ⟨27, _⟩ => ⟨S16384x64, .f32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S1, .i32⟩
  | .hbm, ⟨37, _⟩ => ⟨S_, .i32⟩
  | .hbm, ⟨38, _⟩ => ⟨S16384x1, .i32⟩
  | .hbm, ⟨39, _⟩ => ⟨S16384x1, .i1⟩
  | .hbm, ⟨40, _⟩ => ⟨S1x1, .i32⟩
  | .hbm, ⟨41, _⟩ => ⟨S16384x1, .i32⟩
  | .hbm, ⟨42, _⟩ => ⟨S16384x1, .i1⟩
  | .hbm, ⟨43, _⟩ => ⟨S16384x1, .i1⟩
  | .hbm, ⟨44, _⟩ => ⟨S_, .i1⟩
  | .hbm, ⟨45, _⟩ => ⟨S16384, .i1⟩
  | .hbm, ⟨46, _⟩ => ⟨S16384x64, .f32⟩
  | .hbm, ⟨47, _⟩ => ⟨S16384x64, .i1⟩
  | .hbm, ⟨48, _⟩ => ⟨S_, .f32⟩
  | .hbm, ⟨49, _⟩ => ⟨S16384x64, .f32⟩
  | .hbm, ⟨50, _⟩ => ⟨S16384x64, .f32⟩
  | .hbm, ⟨51, _⟩ => ⟨S16384x64, .f32⟩
  | .hbm, ⟨52, _⟩ => ⟨S_, .f32⟩
  | .hbm, ⟨53, _⟩ => ⟨S16384, .f32⟩
  | .hbm, ⟨54, _⟩ => ⟨S16384, .f32⟩
  | .hbm, ⟨55, _⟩ => ⟨S16384, .f32⟩
  | .hbm, ⟨56, _⟩ => ⟨S_, .f32⟩
  | .hbm, ⟨57, _⟩ => ⟨S16384, .f32⟩
  | .hbm, ⟨58, _⟩ => ⟨S16384, .f32⟩
  | .hbm, ⟨59, _⟩ => ⟨S_, .f32⟩
  | .hbm, ⟨60, _⟩ => ⟨S16384, .f32⟩
  | .hbm, ⟨61, _⟩ => ⟨S16384, .f32⟩
  | .hbm, ⟨62, _⟩ => ⟨S16384, .f32⟩
  | .hbm, ⟨63, _⟩ => ⟨S_, .i32⟩
  | .hbm, ⟨64, _⟩ => ⟨S16384x5, .i32⟩
  | .hbm, ⟨65, _⟩ => ⟨S16384x5, .i1⟩
  | .hbm, ⟨66, _⟩ => ⟨S_, .i32⟩
  | .hbm, ⟨67, _⟩ => ⟨S16384x5, .i32⟩
  | .hbm, ⟨68, _⟩ => ⟨S16384x5, .i32⟩
  | .hbm, ⟨69, _⟩ => ⟨S16384x5, .i32⟩
  | .hbm, ⟨70, _⟩ => ⟨S16384x5x1, .i32⟩
  | .hbm, ⟨71, _⟩ => ⟨S1, .i32⟩
  | .hbm, ⟨72, _⟩ => ⟨S_, .i32⟩
  | .hbm, ⟨73, _⟩ => ⟨S16384x5x1, .i32⟩
  | .hbm, ⟨74, _⟩ => ⟨S16384x5x1, .i1⟩
  | .hbm, ⟨75, _⟩ => ⟨S1x1x1, .i32⟩
  | .hbm, ⟨76, _⟩ => ⟨S16384x5x1, .i32⟩
  | .hbm, ⟨77, _⟩ => ⟨S16384x5x1, .i1⟩
  | .hbm, ⟨78, _⟩ => ⟨S16384x5x1, .i1⟩
  | .hbm, ⟨79, _⟩ => ⟨S_, .i1⟩
  | .hbm, ⟨80, _⟩ => ⟨S16384x5, .i1⟩
  | .hbm, ⟨81, _⟩ => ⟨S16384x5x64, .f32⟩
  | .hbm, ⟨82, _⟩ => ⟨S16384x5x64, .i1⟩
  | .hbm, ⟨83, _⟩ => ⟨S_, .f32⟩
  | .hbm, ⟨84, _⟩ => ⟨S16384x5x64, .f32⟩
  | .hbm, ⟨85, _⟩ => ⟨S16384x5x64, .f32⟩
  | .hbm, ⟨86, _⟩ => ⟨S16384x5, .f32⟩
  | .hbm, ⟨87, _⟩ => ⟨S16384x5, .f32⟩
  | .hbm, ⟨88, _⟩ => ⟨S16384x5, .f32⟩
  | .hbm, ⟨89, _⟩ => ⟨S16384x5, .f32⟩
  | .hbm, ⟨90, _⟩ => ⟨S_, .f32⟩
  | .hbm, ⟨91, _⟩ => ⟨S16384x5, .f32⟩
  | .hbm, ⟨92, _⟩ => ⟨S16384x5, .f32⟩
  | .hbm, ⟨93, _⟩ => ⟨S_, .f32⟩
  | .hbm, ⟨94, _⟩ => ⟨S16384x5, .f32⟩
  | .hbm, ⟨95, _⟩ => ⟨S16384x5, .f32⟩
  | .hbm, ⟨96, _⟩ => ⟨S16384x5, .f32⟩
  | .hbm, ⟨97, _⟩ => ⟨S_, .f32⟩
  | .hbm, ⟨98, _⟩ => ⟨S16384, .f32⟩
  | .hbm, ⟨99, _⟩ => ⟨S16384, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_v2 : Ref sig .tc := ⟨.hbm, 51, rfl⟩
abbrev main_cst : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_cst_0 : Ref sig .tc := ⟨.hbm, 56, rfl⟩
abbrev main_v6 : Ref sig .tc := ⟨.hbm, 57, rfl⟩
abbrev main_v7 : Ref sig .tc := ⟨.hbm, 58, rfl⟩
abbrev main_cst_1 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_call2_cst : Ref sig .tc := ⟨.hbm, 83, rfl⟩
abbrev main_call2_v15 : Ref sig .tc := ⟨.hbm, 84, rfl⟩
abbrev main_v11 : Ref sig .tc := ⟨.hbm, 85, rfl⟩
abbrev main_v12 : Ref sig .tc := ⟨.hbm, 86, rfl⟩
abbrev main_v13 : Ref sig .tc := ⟨.hbm, 87, rfl⟩
abbrev main_v14 : Ref sig .tc := ⟨.hbm, 88, rfl⟩
abbrev main_v15 : Ref sig .tc := ⟨.hbm, 89, rfl⟩
abbrev main_cst_2 : Ref sig .tc := ⟨.hbm, 90, rfl⟩
abbrev main_v16 : Ref sig .tc := ⟨.hbm, 91, rfl⟩
abbrev main_v17 : Ref sig .tc := ⟨.hbm, 92, rfl⟩
abbrev main_cst_3 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_cst_4 : Ref sig .tc := ⟨.hbm, 97, rfl⟩
abbrev main_v21 : Ref sig .tc := ⟨.hbm, 98, rfl⟩
abbrev main_v22 : Ref sig .tc := ⟨.hbm, 99, rfl⟩
abbrev main_cst_5 : Ref sig .tc := ⟨.hbm, 100, rfl⟩
abbrev main_v23 : Ref sig .tc := ⟨.hbm, 101, rfl⟩
abbrev main_cst_6 : Ref sig .tc := ⟨.hbm, 102, rfl⟩
abbrev main_v24 : Ref sig .tc := ⟨.hbm, 103, rfl⟩
abbrev main_v25 : Ref sig .tc := ⟨.hbm, 104, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  reducesTo_S16384x64_S16384_d1 : S16384x64.ReducesTo [1] S16384
  bcast_S_S16384x5 : S_.BroadcastsInDim S16384x5 (![] : Fin 0 → Fin S16384x5.rank)
  bcast_S16384x5_S16384x5x1_0_1 : S16384x5.BroadcastsInDim S16384x5x1 (![0, 1] : Fin 2 → Fin S16384x5x1.rank)
  bcast_S_S16384x5x1 : S_.BroadcastsInDim S16384x5x1 (![] : Fin 0 → Fin S16384x5x1.rank)
  bcast_S1_S1x1x1_2 : S1.BroadcastsInDim S1x1x1 (![2] : Fin 1 → Fin S1x1x1.rank)
  bcast_S1x1x1_S16384x5x1_0_1_2 : S1x1x1.BroadcastsInDim S16384x5x1 (![0, 1, 2] : Fin 3 → Fin S16384x5x1.rank)
  reducesTo_S16384x5x1_S16384x5_d2 : S16384x5x1.ReducesTo [2] S16384x5
  bcast_S16384x5_S16384x5x64_0_1 : S16384x5.BroadcastsInDim S16384x5x64 (![0, 1] : Fin 2 → Fin S16384x5x64.rank)
  bcast_S_S16384x5x64 : S_.BroadcastsInDim S16384x5x64 (![] : Fin 0 → Fin S16384x5x64.rank)
  reducesTo_S16384x5_S16384_d1 : S16384x5.ReducesTo [1] S16384
  reducesTo_S16384_S_d0 : S16384.ReducesTo [0] S_
  gather_S1000000x64_S16384x1_S16384x64_1_0_n_n_0_1_164_wf : GatherDims.WF S1000000x64 S16384x1 S16384x64 [1] [0] [] [0] [] 1 ![1, 64]
  gather_S1000000x64_S16384x5x1_S16384x5x64_2_0_n_n_0_2_164_wf : GatherDims.WF S1000000x64 S16384x5x1 S16384x5x64 [2] [0] [] [0] [] 2 ![1, 64]
  dot_S16384x5x64_S16384x64_S16384x5_2_1_1_n_0_0_wf : DotDims.WF S16384x5x64 S16384x64 S16384x5 [2] [1] [1] [] [0] [0]

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def gather_S1000000x64_S16384x5x1_S16384x5x64_2_0_n_n_0_2_164 : GatherDims S1000000x64 S16384x5x1 S16384x5x64 where
  offsetDims := [2]
  collapsedSliceDims := [0]
  operandBatchingDims := []
  startIndicesBatchingDims := []
  startIndexMap := [0]
  indexVectorDim := 2
  sliceSizes := ![1, 64]
  wf := gather_S1000000x64_S16384x5x1_S16384x5x64_2_0_n_n_0_2_164_wf
def dot_S16384x5x64_S16384x64_S16384x5_2_1_1_n_0_0 : DotDims S16384x5x64 S16384x64 S16384x5 where
  lhsContracting := [2]
  rhsContracting := [1]
  lhsNonContracting := [1]
  rhsNonContracting := []
  lhsBatch := [0]
  rhsBatch := [0]
  wf := dot_S16384x5x64_S16384x64_S16384x5_2_1_1_n_0_0_wf

class Facts : Prop extends Facts₀ where

variable [Facts]
-- ==== Proof.RefTerm.lean ====
/-
  The reference's result as one pure function of its five argument arrays, for any float instance.

  The reference gathers a table's rows at an array of index words the way jnp.take does: a negative word is
  first wrapped by adding the table's 1000000 rows; the row gathered is the one the (wrapped) word names,
  clamped into the table; and the gathered row is kept only where the wrapped word lies in [0, 999999] —
  elsewhere the row is replaced by the NaN word 0x7FC00000. With v = ev[center], u = eu[ctx], n = eu[neg]:
  the positive part is log(1 / (1 + exp(-(∑_d v·u)))) per batch element, the negative part
  ∑_k log(1 / (1 + exp(-(-(n_k · u))))), and the result is -((∑_b (pos b + neg b)) / 16384).
-/
import proofs.«218857_g62938450756068_cont_9to1c4b_813_41_alg».proof.ReferenceIdeal
import proofs.«218857_g62938450756068_cont_9to1c4b_813_41_alg».proof.Proof.Gen.ReferenceIdeal

noncomputable section

namespace Cert.ReferenceIdeal.RefValue

open Cert.ReferenceIdeal Cert.ReferenceIdeal.Gen Idealize.ShloMosaic

variable {F : FTy → Type} [FloatOps F]

/-! ## Rows of a table at a vector of index words -/

/-- A negative index word wrapped once around the table: w + 1000000 where w < 0 (signed), else w. -/
def wrap1 (idx : IVec S16384 32) : IVec S16384 32 :=
  select (cmpi .slt idx (broadcastInDim S16384 ![] bcast_S_S16384 (constantI S_ 32 0#32)))
    (addi idx (broadcastInDim S16384 ![] bcast_S_S16384 (constantI S_ 32 1000000#32))) idx

/-- The wrapped words as a column of start indices. -/
def col1 (idx : IVec S16384 32) : IVec S16384x1 32 :=
  broadcastInDim S16384x1 ![0] bcast_S16384_S16384x1_0 (wrap1 idx)

/-- The in-range mask: 1 where the wrapped word lies in [0, 999999] read signed. -/
def inRange1 (idx : IVec S16384 32) : IVec S16384 1 :=
  Host.reduce IntOp.andi
    (andi (cmpi .sge (col1 idx) (broadcastInDim S16384x1 ![] bcast_S_S16384x1 (constantI S_ 32 0#32)))
      (cmpi .sle (col1 idx) (broadcastInDim S16384x1 ![0, 1] bcast_S1x1_S16384x1_0_1
        (broadcastInDim S1x1 ![1] bcast_S1_S1x1_1 (constantI S1 32 999999#32)))))
    (constantI S_ 1 1#1) reducesTo_S16384x1_S16384_d1 h_S_

/-- The rows of `tab` at the words `idx`: the gathered rows where the mask is 1, the NaN word elsewhere. -/
def takeRows (tab : FVec F S1000000x64 .f32) (idx : IVec S16384 32) : FVec F S16384x64 .f32 :=
  select (broadcastInDim S16384x64 ![0] bcast_S16384_S16384x64_0 (inRange1 idx))
    (Host.gather gather_S1000000x64_S16384x1_S16384x64_1_0_n_n_0_1_164 tab (col1 idx))
    (broadcastInDim S16384x64 ![] bcast_S_S16384x64 (constant (F := F) S_ .f32 0x7FC00000#32))

/-! ## Rows of a table at a matrix of index words -/

/-- As `wrap1`, over the [16384, 5] array of negative samples. -/
def wrap5 (idx : IVec S16384x5 32) : IVec S16384x5 32 :=
  select (cmpi .slt idx (broadcastInDim S16384x5 ![] bcast_S_S16384x5 (constantI S_ 32 0#32)))
    (addi idx (broadcastInDim S16384x5 ![] bcast_S_S16384x5 (constantI S_ 32 1000000#32))) idx

/-- The wrapped words with a trailing unit axis: the start indices. -/
def col5 (idx : IVec S16384x5 32) : IVec S16384x5x1 32 :=
  broadcastInDim S16384x5x1 ![0, 1] bcast_S16384x5_S16384x5x1_0_1 (wrap5 idx)

/-- The in-range mask over the [16384, 5] array. -/
def inRange5 (idx : IVec S16384x5 32) : IVec S16384x5 1 :=
  Host.reduce IntOp.andi
    (andi (cmpi .sge (col5 idx) (broadcastInDim S16384x5x1 ![] bcast_S_S16384x5x1 (constantI S_ 32 0#32)))
      (cmpi .sle (col5 idx) (broadcastInDim S16384x5x1 ![0, 1, 2] bcast_S1x1x1_S16384x5x1_0_1_2
        (broadcastInDim S1x1x1 ![2] bcast_S1_S1x1x1_2 (constantI S1 32 999999#32)))))
    (constantI S_ 1 1#1) reducesTo_S16384x5x1_S16384x5_d2 h_S_

/-- The rows of `tab` at the words `idx`, a [16384, 5, 64] array. -/
def takeRows5 (tab : FVec F S1000000x64 .f32) (idx : IVec S16384x5 32) : FVec F S16384x5x64 .f32 :=
  select (broadcastInDim S16384x5x64 ![0, 1] bcast_S16384x5_S16384x5x64_0_1 (inRange5 idx))
    (Host.gather gather_S1000000x64_S16384x5x1_S16384x5x64_2_0_n_n_0_2_164 tab (col5 idx))
    (broadcastInDim S16384x5x64 ![] bcast_S_S16384x5x64 (constant (F := F) S_ .f32 0x7FC00000#32))

/-! ## The scores and the loss -/

/-- log(1 / (1 + exp(-x))) entry by entry, with `one` the array of the literal 1.0. -/
def logSigV {s : Shape} (one x : FVec F s .f32) : FVec F s .f32 :=
  Host.log (Host.divf one (addf one (Host.exp (Host.negf x))))

/-- The positive part per batch element: log σ of the row product ∑_d v[b,d] · u[b,d]. -/
def posPart (v u : FVec F S16384x64 .f32) : FVec F S16384 .f32 :=
  logSigV (broadcastInDim S16384 ![] bcast_S_S16384 (constant (F := F) S_ .f32 0x3F800000#32))
    (Host.reduceAdd (mulf v u) (constant (F := F) S_ .f32 0x00000000#32) reducesTo_S16384x64_S16384_d1 h_S_)

/-- The negative part per batch element: ∑_k log σ of minus the contraction ∑_d n[b,k,d] · u[b,d]. -/
def negPart (n : FVec F S16384x5x64 .f32) (u : FVec F S16384x64 .f32) : FVec F S16384 .f32 :=
  Host.reduceAdd
    (logSigV (broadcastInDim S16384x5 ![] bcast_S_S16384x5 (constant (F := F) S_ .f32 0x3F800000#32))
      (Host.negf (Host.dotGeneral dot_S16384x5x64_S16384x64_S16384x5_2_1_1_n_0_0 none n u)))
    (constant (F := F) S_ .f32 0x00000000#32) reducesTo_S16384x5_S16384_d1 h_S_

/-- Minus the mean over the batch of pos + neg: the sum over the batch divided by the literal 16384.0. -/
def finish (p q : FVec F S16384 .f32) : FVec F S_ .f32 :=
  Host.negf (Host.divf
    (Host.reduceAdd (addf p q) (constant (F := F) S_ .f32 0x00000000#32) reducesTo_S16384_S_d0 h_S_)
    (constant (F := F) S_ .f32 0x46800000#32))

/-- THE REFERENCE'S RESULT as a function of its arguments: center words, context words, negative samples,
    the table of center vectors, the table of context vectors. -/
def refOut (a0 a1 : IVec S16384 32) (a2 : IVec S16384x5 32) (a3 a4 : FVec F S1000000x64 .f32) : FVec F S_ .f32 :=
  finish (posPart (takeRows a3 a0) (takeRows a4 a1)) (negPart (takeRows5 a4 a2) (takeRows a4 a1))

end Cert.ReferenceIdeal.RefValue

end
-- ==== Proof.RefRun.lean ====
/-
  The reference's run. Its @main, with the three row lookups' bodies in place of their calls, is a straight
  line of 100 host operations; every weakly fair execution of it terminates, and each buffer then holds the
  fold of the operations' results over the launch contents. The line is read in five stretches — a row
  lookup, a row lookup, the positive part, a row lookup, the negative part with the mean — each stretch's
  result being one of the pure functions of RefTerm at the buffers the stretch reads, and every buffer a
  stretch does not write keeping its contents; composed, the result buffer holds `refOut` of the five
  arguments, and the arguments are unchanged.
-/
import proofs.«218857_g62938450756068_cont_9to1c4b_813_41_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The operations, stretch by stretch -/

/-- The 23 operations of the first row lookup: the center vectors ev[center]. -/
abbrev opsA : List (HloOp τ sig (Elt F)) :=
  [ StableHlo.TRef.nullary main_call0.c (constantI S_ 32 0#32),
    StableHlo.TRef.unary main_call0.c main_call0.v0 (broadcastInDim S16384 ![] bcast_S_S16384),
    StableHlo.TRef.binary (.of main_arg0) main_call0.v0 main_call0.v1 (cmpi .slt),
    StableHlo.TRef.nullary main_call0.c_0 (constantI S_ 32 1000000#32),
    StableHlo.TRef.unary main_call0.c_0 main_call0.v2 (broadcastInDim S16384 ![] bcast_S_S16384),
    StableHlo.TRef.binary (.of main_arg0) main_call0.v2 main_call0.v3 addi,
    StableHlo.TRef.ternary main_call0.v1 main_call0.v3 (.of main_arg0) main_call0.call0.v0 select,
    StableHlo.TRef.unary main_call0.call0.v0 main_call0.v5 (broadcastInDim S16384x1 ![0] bcast_S16384_S16384x1_0),
    StableHlo.TRef.nullary main_call0.c_1 (constantI S1 32 999999#32),
    StableHlo.TRef.nullary main_call0.c_2 (constantI S_ 32 0#32),
    StableHlo.TRef.unary main_call0.c_2 main_call0.v6 (broadcastInDim S16384x1 ![] bcast_S_S16384x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S16384x1 ![0, 1] bcast_S1x1_S16384x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S16384x1_S16384_d1 h_S_),
    StableHlo.TRef.binary (.of main_arg3) main_call0.v5 main_call0.v13 (fun x i => Host.gather gather_S1000000x64_S16384x1_S16384x64_1_0_n_n_0_1_164 x i),
    StableHlo.TRef.unary main_call0.v12 main_call0.v14 (broadcastInDim S16384x64 ![0] bcast_S16384_S16384x64_0),
    StableHlo.TRef.nullary main_call0.cst (constant S_ .f32 0x7FC00000#32),
    StableHlo.TRef.unary main_call0.cst main_call0.v15 (broadcastInDim S16384x64 ![] bcast_S_S16384x64),
    StableHlo.TRef.ternary main_call0.v14 main_call0.v13 main_call0.v15 main_call0.v16 select ]

/-- The 23 operations of the second row lookup: the context vectors eu[ctx]. -/
abbrev opsB : List (HloOp τ sig (Elt F)) :=
  [ StableHlo.TRef.nullary main_call1.c (constantI S_ 32 0#32),
    StableHlo.TRef.unary main_call1.c main_call1.v0 (broadcastInDim S16384 ![] bcast_S_S16384),
    StableHlo.TRef.binary (.of main_arg1) main_call1.v0 main_call1.v1 (cmpi .slt),
    StableHlo.TRef.nullary main_call1.c_0 (constantI S_ 32 1000000#32),
    StableHlo.TRef.unary main_call1.c_0 main_call1.v2 (broadcastInDim S16384 ![] bcast_S_S16384),
    StableHlo.TRef.binary (.of main_arg1) main_call1.v2 main_call1.v3 addi,
    StableHlo.TRef.ternary main_call1.v1 main_call1.v3 (.of main_arg1) main_call1.call0.v0 select,
    StableHlo.TRef.unary main_call1.call0.v0 main_call1.v5 (broadcastInDim S16384x1 ![0] bcast_S16384_S16384x1_0),
    StableHlo.TRef.nullary main_call1.c_1 (constantI S1 32 999999#32),
    StableHlo.TRef.nullary main_call1.c_2 (constantI S_ 32 0#32),
    StableHlo.TRef.unary main_call1.c_2 main_call1.v6 (broadcastInDim S16384x1 ![] bcast_S_S16384x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S16384x1 ![0, 1] bcast_S1x1_S16384x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S16384x1_S16384_d1 h_S_),
    StableHlo.TRef.binary (.of main_arg4) main_call1.v5 main_call1.v13 (fun x i => Host.gather gather_S1000000x64_S16384x1_S16384x64_1_0_n_n_0_1_164 x i),
    StableHlo.TRef.unary main_call1.v12 main_call1.v14 (broadcastInDim S16384x64 ![0] bcast_S16384_S16384x64_0),
    StableHlo.TRef.nullary main_call1.cst (constant S_ .f32 0x7FC00000#32),
    StableHlo.TRef.unary main_call1.cst main_call1.v15 (broadcastInDim S16384x64 ![] bcast_S_S16384x64),
    StableHlo.TRef.ternary main_call1.v14 main_call1.v13 main_call1.v15 main_call1.v16 select ]

/-- The 12 operations of the positive part: the row products, their sums, log σ. -/
abbrev opsC : List (HloOp τ sig (Elt F)) :=
  [ StableHlo.binary main_v0 main_v1 main_v2 (mulf : (⟨S16384x64, .f32⟩ : BufTy).Contents (Elt F) → (⟨S16384x64, .f32⟩ : BufTy).Contents (Elt F) → (⟨S16384x64, .f32⟩ : BufTy).Contents (Elt F)),
    StableHlo.nullary main_cst (constant S_ .f32 0x00000000#32),
    StableHlo.binary main_v2 main_cst main_v3 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    StableHlo.unary main_v3 main_v4 (Host.negf : (⟨S16384, .f32⟩ : BufTy).Contents (Elt F) → (⟨S16384, .f32⟩ : BufTy).Contents (Elt F)),
    StableHlo.unary main_v4 main_v5 (Host.exp : (⟨S16384, .f32⟩ : BufTy).Contents (Elt F) → (⟨S16384, .f32⟩ : BufTy).Contents (Elt F)),
    StableHlo.nullary main_cst_0 (constant S_ .f32 0x3F800000#32),
    StableHlo.unary main_cst_0 main_v6 (broadcastInDim S16384 ![] bcast_S_S16384 : (⟨S_, .f32⟩ : BufTy).Contents (Elt F) → (⟨S16384, .f32⟩ : BufTy).Contents (Elt F)),
    StableHlo.binary main_v6 main_v5 main_v7 (addf : (⟨S16384, .f32⟩ : BufTy).Contents (Elt F) → (⟨S16384, .f32⟩ : BufTy).Contents (Elt F) → (⟨S16384, .f32⟩ : BufTy).Contents (Elt F)),
    StableHlo.nullary main_cst_1 (constant S_ .f32 0x3F800000#32),
    StableHlo.unary main_cst_1 main_v8 (broadcastInDim S16384 ![] bcast_S_S16384 : (⟨S_, .f32⟩ : BufTy).Contents (Elt F) → (⟨S16384, .f32⟩ : BufTy).Contents (Elt F)),
    StableHlo.binary main_v8 main_v7 main_v9 (Host.divf : (⟨S16384, .f32⟩ : BufTy).Contents (Elt F) → (⟨S16384, .f32⟩ : BufTy).Contents (Elt F) → (⟨S16384, .f32⟩ : BufTy).Contents (Elt F)),
    StableHlo.unary main_v9 main_v10 (Host.log : (⟨S16384, .f32⟩ : BufTy).Contents (Elt F) → (⟨S16384, .f32⟩ : BufTy).Contents (Elt F)) ]

/-- The 23 operations of the third row lookup: the negative samples' vectors eu[neg]. -/
abbrev opsD : List (HloOp τ sig (Elt F)) :=
  [ StableHlo.TRef.nullary main_call2.c (constantI S_ 32 0#32),
    StableHlo.TRef.unary main_call2.c main_call2.v0 (broadcastInDim S16384x5 ![] bcast_S_S16384x5),
    StableHlo.TRef.binary (.of main_arg2) main_call2.v0 main_call2.v1 (cmpi .slt),
    StableHlo.TRef.nullary main_call2.c_0 (constantI S_ 32 1000000#32),
    StableHlo.TRef.unary main_call2.c_0 main_call2.v2 (broadcastInDim S16384x5 ![] bcast_S_S16384x5),
    StableHlo.TRef.binary (.of main_arg2) main_call2.v2 main_call2.v3 addi,
    StableHlo.TRef.ternary main_call2.v1 main_call2.v3 (.of main_arg2) main_call2.call0.v0 select,
    StableHlo.TRef.unary main_call2.call0.v0 main_call2.v5 (broadcastInDim S16384x5x1 ![0, 1] bcast_S16384x5_S16384x5x1_0_1),
    StableHlo.TRef.nullary main_call2.c_1 (constantI S1 32 999999#32),
    StableHlo.TRef.nullary main_call2.c_2 (constantI S_ 32 0#32),
    StableHlo.TRef.unary main_call2.c_2 main_call2.v6 (broadcastInDim S16384x5x1 ![] bcast_S_S16384x5x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S16384x5x1 ![0, 1, 2] bcast_S1x1x1_S16384x5x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S16384x5x1_S16384x5_d2 h_S_),
    StableHlo.TRef.binary (.of main_arg4) main_call2.v5 main_call2.v13 (fun x i => Host.gather gather_S1000000x64_S16384x5x1_S16384x5x64_2_0_n_n_0_2_164 x i),
    StableHlo.TRef.unary main_call2.v12 main_call2.v14 (broadcastInDim S16384x5x64 ![0, 1] bcast_S16384x5_S16384x5x64_0_1),
    StableHlo.TRef.nullary main_call2.cst (constant S_ .f32 0x7FC00000#32),
    StableHlo.TRef.unary main_call2.cst main_call2.v15 (broadcastInDim S16384x5x64 ![] bcast_S_S16384x5x64),
    StableHlo.TRef.ternary main_call2.v14 main_call2.v13 main_call2.v15 main_call2.v16 select ]

/-- The 19 operations of the negative part and of the mean: the contraction, log σ of its negation, the sums, the division by 16384, the sign. -/
abbrev opsE : List (HloOp τ sig (Elt F)) :=
  [ StableHlo.binary main_v11 main_v1 main_v12 ((fun l r => Host.dotGeneral dot_S16384x5x64_S16384x64_S16384x5_2_1_1_n_0_0 none l r) : (⟨S16384x5x64, .f32⟩ : BufTy).Contents (Elt F) → (⟨S16384x64, .f32⟩ : BufTy).Contents (Elt F) → (⟨S16384x5, .f32⟩ : BufTy).Contents (Elt F)),
    StableHlo.unary main_v12 main_v13 (Host.negf : (⟨S16384x5, .f32⟩ : BufTy).Contents (Elt F) → (⟨S16384x5, .f32⟩ : BufTy).Contents (Elt F)),
    StableHlo.unary main_v13 main_v14 (Host.negf : (⟨S16384x5, .f32⟩ : BufTy).Contents (Elt F) → (⟨S16384x5, .f32⟩ : BufTy).Contents (Elt F)),
    StableHlo.unary main_v14 main_v15 (Host.exp : (⟨S16384x5, .f32⟩ : BufTy).Contents (Elt F) → (⟨S16384x5, .f32⟩ : BufTy).Contents (Elt F)),
    StableHlo.nullary main_cst_2 (constant S_ .f32 0x3F800000#32),
    StableHlo.unary main_cst_2 main_v16 (broadcastInDim S16384x5 ![] bcast_S_S16384x5 : (⟨S_, .f32⟩ : BufTy).Contents (Elt F) → (⟨S16384x5, .f32⟩ : BufTy).Contents (Elt F)),
    StableHlo.binary main_v16 main_v15 main_v17 (addf : (⟨S16384x5, .f32⟩ : BufTy).Contents (Elt F) → (⟨S16384x5, .f32⟩ : BufTy).Contents (Elt F) → (⟨S16384x5, .f32⟩ : BufTy).Contents (Elt F)),
    StableHlo.nullary main_cst_3 (constant S_ .f32 0x3F800000#32),
    StableHlo.unary main_cst_3 main_v18 (broadcastInDim S16384x5 ![] bcast_S_S16384x5 : (⟨S_, .f32⟩ : BufTy).Contents (Elt F) → (⟨S16384x5, .f32⟩ : BufTy).Contents (Elt F)),
    StableHlo.binary main_v18 main_v17 main_v19 (Host.divf : (⟨S16384x5, .f32⟩ : BufTy).Contents (Elt F) → (⟨S16384x5, .f32⟩ : BufTy).Contents (Elt F) → (⟨S16384x5, .f32⟩ : BufTy).Contents (Elt F)),
    StableHlo.unary main_v19 main_v20 (Host.log : (⟨S16384x5, .f32⟩ : BufTy).Contents (Elt F) → (⟨S16384x5, .f32⟩ : BufTy).Contents (Elt F)),
    StableHlo.nullary main_cst_4 (constant S_ .f32 0x00000000#32),
    StableHlo.binary main_v20 main_cst_4 main_v21 ((fun x v => Host.reduceAdd x v reducesTo_S16384x5_S16384_d1 h_S_) : (⟨S16384x5, .f32⟩ : BufTy).Contents (Elt F) → (⟨S_, .f32⟩ : BufTy).Contents (Elt F) → (⟨S16384, .f32⟩ : BufTy).Contents (Elt F)),
    StableHlo.binary main_v10 main_v21 main_v22 (addf : (⟨S16384, .f32⟩ : BufTy).Contents (Elt F) → (⟨S16384, .f32⟩ : BufTy).Contents (Elt F) → (⟨S16384, .f32⟩ : BufTy).Contents (Elt F)),
    StableHlo.nullary main_cst_5 (constant S_ .f32 0x00000000#32),
    StableHlo.binary main_v22 main_cst_5 main_v23 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    StableHlo.nullary main_cst_6 (constant S_ .f32 0x46800000#32),
    StableHlo.binary main_v23 main_cst_6 main_v24 (Host.divf : (⟨S_, .f32⟩ : BufTy).Contents (Elt F) → (⟨S_, .f32⟩ : BufTy).Contents (Elt F) → (⟨S_, .f32⟩ : BufTy).Contents (Elt F)),
    StableHlo.unary main_v24 main_v25 (Host.negf : (⟨S_, .f32⟩ : BufTy).Contents (Elt F) → (⟨S_, .f32⟩ : BufTy).Contents (Elt F)) ]

/-- @main's 100 operations, in order. -/
abbrev ops : List (HloOp τ sig (Elt F)) :=
  [ StableHlo.TRef.nullary main_call0.c (constantI S_ 32 0#32),
    StableHlo.TRef.unary main_call0.c main_call0.v0 (broadcastInDim S16384 ![] bcast_S_S16384),
    StableHlo.TRef.binary (.of main_arg0) main_call0.v0 main_call0.v1 (cmpi .slt),
    StableHlo.TRef.nullary main_call0.c_0 (constantI S_ 32 1000000#32),
    StableHlo.TRef.unary main_call0.c_0 main_call0.v2 (broadcastInDim S16384 ![] bcast_S_S16384),
    StableHlo.TRef.binary (.of main_arg0) main_call0.v2 main_call0.v3 addi,
    StableHlo.TRef.ternary main_call0.v1 main_call0.v3 (.of main_arg0) main_call0.call0.v0 select,
    StableHlo.TRef.unary main_call0.call0.v0 main_call0.v5 (broadcastInDim S16384x1 ![0] bcast_S16384_S16384x1_0),
    StableHlo.TRef.nullary main_call0.c_1 (constantI S1 32 999999#32),
    StableHlo.TRef.nullary main_call0.c_2 (constantI S_ 32 0#32),
    StableHlo.TRef.unary main_call0.c_2 main_call0.v6 (broadcastInDim S16384x1 ![] bcast_S_S16384x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S16384x1 ![0, 1] bcast_S1x1_S16384x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S16384x1_S16384_d1 h_S_),
    StableHlo.TRef.binary (.of main_arg3) main_call0.v5 main_call0.v13 (fun x i => Host.gather gather_S1000000x64_S16384x1_S16384x64_1_0_n_n_0_1_164 x i),
    StableHlo.TRef.unary main_call0.v12 main_call0.v14 (broadcastInDim S16384x64 ![0] bcast_S16384_S16384x64_0),
    StableHlo.TRef.nullary main_call0.cst (constant S_ .f32 0x7FC00000#32),
    StableHlo.TRef.unary main_call0.cst main_call0.v15 (broadcastInDim S16384x64 ![] bcast_S_S16384x64),
    StableHlo.TRef.ternary main_call0.v14 main_call0.v13 main_call0.v15 main_call0.v16 select,
    StableHlo.TRef.nullary main_call1.c (constantI S_ 32 0#32),
    StableHlo.TRef.unary main_call1.c main_call1.v0 (broadcastInDim S16384 ![] bcast_S_S16384),
    StableHlo.TRef.binary (.of main_arg1) main_call1.v0 main_call1.v1 (cmpi .slt),
    StableHlo.TRef.nullary main_call1.c_0 (constantI S_ 32 1000000#32),
    StableHlo.TRef.unary main_call1.c_0 main_call1.v2 (broadcastInDim S16384 ![] bcast_S_S16384),
    StableHlo.TRef.binary (.of main_arg1) main_call1.v2 main_call1.v3 addi,
    StableHlo.TRef.ternary main_call1.v1 main_call1.v3 (.of main_arg1) main_call1.call0.v0 select,
    StableHlo.TRef.unary main_call1.call0.v0 main_call1.v5 (broadcastInDim S16384x1 ![0] bcast_S16384_S16384x1_0),
    StableHlo.TRef.nullary main_call1.c_1 (constantI S1 32 999999#32),
    StableHlo.TRef.nullary main_call1.c_2 (constantI S_ 32 0#32),
    StableHlo.TRef.unary main_call1.c_2 main_call1.v6 (broadcastInDim S16384x1 ![] bcast_S_S16384x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S16384x1 ![0, 1] bcast_S1x1_S16384x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S16384x1_S16384_d1 h_S_),
    StableHlo.TRef.binary (.of main_arg4) main_call1.v5 main_call1.v13 (fun x i => Host.gather gather_S1000000x64_S16384x1_S16384x64_1_0_n_n_0_1_164 x i),
    StableHlo.TRef.unary main_call1.v12 main_call1.v14 (broadcastInDim S16384x64 ![0] bcast_S16384_S16384x64_0),
    StableHlo.TRef.nullary main_call1.cst (constant S_ .f32 0x7FC00000#32),
    StableHlo.TRef.unary main_call1.cst main_call1.v15 (broadcastInDim S16384x64 ![] bcast_S_S16384x64),
    StableHlo.TRef.ternary main_call1.v14 main_call1.v13 main_call1.v15 main_call1.v16 select,
    StableHlo.binary main_v0 main_v1 main_v2 (mulf : (⟨S16384x64, .f32⟩ : BufTy).Contents (Elt F) → (⟨S16384x64, .f32⟩ : BufTy).Contents (Elt F) → (⟨S16384x64, .f32⟩ : BufTy).Contents (Elt F)),
    StableHlo.nullary main_cst (constant S_ .f32 0x00000000#32),
    StableHlo.binary main_v2 main_cst main_v3 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    StableHlo.unary main_v3 main_v4 (Host.negf : (⟨S16384, .f32⟩ : BufTy).Contents (Elt F) → (⟨S16384, .f32⟩ : BufTy).Contents (Elt F)),
    StableHlo.unary main_v4 main_v5 (Host.exp : (⟨S16384, .f32⟩ : BufTy).Contents (Elt F) → (⟨S16384, .f32⟩ : BufTy).Contents (Elt F)),
    StableHlo.nullary main_cst_0 (constant S_ .f32 0x3F800000#32),
    StableHlo.unary main_cst_0 main_v6 (broadcastInDim S16384 ![] bcast_S_S16384 : (⟨S_, .f32⟩ : BufTy).Contents (Elt F) → (⟨S16384, .f32⟩ : BufTy).Contents (Elt F)),
    StableHlo.binary main_v6 main_v5 main_v7 (addf : (⟨S16384, .f32⟩ : BufTy).Contents (Elt F) → (⟨S16384, .f32⟩ : BufTy).Contents (Elt F) → (⟨S16384, .f32⟩ : BufTy).Contents (Elt F)),
    StableHlo.nullary main_cst_1 (constant S_ .f32 0x3F800000#32),
    StableHlo.unary main_cst_1 main_v8 (broadcastInDim S16384 ![] bcast_S_S16384 : (⟨S_, .f32⟩ : BufTy).Contents (Elt F) → (⟨S16384, .f32⟩ : BufTy).Contents (Elt F)),
    StableHlo.binary main_v8 main_v7 main_v9 (Host.divf : (⟨S16384, .f32⟩ : BufTy).Contents (Elt F) → (⟨S16384, .f32⟩ : BufTy).Contents (Elt F) → (⟨S16384, .f32⟩ : BufTy).Contents (Elt F)),
    StableHlo.unary main_v9 main_v10 (Host.log : (⟨S16384, .f32⟩ : BufTy).Contents (Elt F) → (⟨S16384, .f32⟩ : BufTy).Contents (Elt F)),
    StableHlo.TRef.nullary main_call2.c (constantI S_ 32 0#32),
    StableHlo.TRef.unary main_call2.c main_call2.v0 (broadcastInDim S16384x5 ![] bcast_S_S16384x5),
    StableHlo.TRef.binary (.of main_arg2) main_call2.v0 main_call2.v1 (cmpi .slt),
    StableHlo.TRef.nullary main_call2.c_0 (constantI S_ 32 1000000#32),
    StableHlo.TRef.unary main_call2.c_0 main_call2.v2 (broadcastInDim S16384x5 ![] bcast_S_S16384x5),
    StableHlo.TRef.binary (.of main_arg2) main_call2.v2 main_call2.v3 addi,
    StableHlo.TRef.ternary main_call2.v1 main_call2.v3 (.of main_arg2) main_call2.call0.v0 select,
    StableHlo.TRef.unary main_call2.call0.v0 main_call2.v5 (broadcastInDim S16384x5x1 ![0, 1] bcast_S16384x5_S16384x5x1_0_1),
    StableHlo.TRef.nullary main_call2.c_1 (constantI S1 32 999999#32),
    StableHlo.TRef.nullary main_call2.c_2 (constantI S_ 32 0#32),
    StableHlo.TRef.unary main_call2.c_2 main_call2.v6 (broadcastInDim S16384x5x1 ![] bcast_S_S16384x5x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S16384x5x1 ![0, 1, 2] bcast_S1x1x1_S16384x5x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S16384x5x1_S16384x5_d2 h_S_),
    StableHlo.TRef.binary (.of main_arg4) main_call2.v5 main_call2.v13 (fun x i => Host.gather gather_S1000000x64_S16384x5x1_S16384x5x64_2_0_n_n_0_2_164 x i),
    StableHlo.TRef.unary main_call2.v12 main_call2.v14 (broadcastInDim S16384x5x64 ![0, 1] bcast_S16384x5_S16384x5x64_0_1),
    StableHlo.TRef.nullary main_call2.cst (constant S_ .f32 0x7FC00000#32),
    StableHlo.TRef.unary main_call2.cst main_call2.v15 (broadcastInDim S16384x5x64 ![] bcast_S_S16384x5x64),
    StableHlo.TRef.ternary main_call2.v14 main_call2.v13 main_call2.v15 main_call2.v16 select,
    StableHlo.binary main_v11 main_v1 main_v12 ((fun l r => Host.dotGeneral dot_S16384x5x64_S16384x64_S16384x5_2_1_1_n_0_0 none l r) : (⟨S16384x5x64, .f32⟩ : BufTy).Contents (Elt F) → (⟨S16384x64, .f32⟩ : BufTy).Contents (Elt F) → (⟨S16384x5, .f32⟩ : BufTy).Contents (Elt F)),
    StableHlo.unary main_v12 main_v13 (Host.negf : (⟨S16384x5, .f32⟩ : BufTy).Contents (Elt F) → (⟨S16384x5, .f32⟩ : BufTy).Contents (Elt F)),
    StableHlo.unary main_v13 main_v14 (Host.negf : (⟨S16384x5, .f32⟩ : BufTy).Contents (Elt F) → (⟨S16384x5, .f32⟩ : BufTy).Contents (Elt F)),
    StableHlo.unary main_v14 main_v15 (Host.exp : (⟨S16384x5, .f32⟩ : BufTy).Contents (Elt F) → (⟨S16384x5, .f32⟩ : BufTy).Contents (Elt F)),
    StableHlo.nullary main_cst_2 (constant S_ .f32 0x3F800000#32),
    StableHlo.unary main_cst_2 main_v16 (broadcastInDim S16384x5 ![] bcast_S_S16384x5 : (⟨S_, .f32⟩ : BufTy).Contents (Elt F) → (⟨S16384x5, .f32⟩ : BufTy).Contents (Elt F)),
    StableHlo.binary main_v16 main_v15 main_v17 (addf : (⟨S16384x5, .f32⟩ : BufTy).Contents (Elt F) → (⟨S16384x5, .f32⟩ : BufTy).Contents (Elt F) → (⟨S16384x5, .f32⟩ : BufTy).Contents (Elt F)),
    StableHlo.nullary main_cst_3 (constant S_ .f32 0x3F800000#32),
    StableHlo.unary main_cst_3 main_v18 (broadcastInDim S16384x5 ![] bcast_S_S16384x5 : (⟨S_, .f32⟩ : BufTy).Contents (Elt F) → (⟨S16384x5, .f32⟩ : BufTy).Contents (Elt F)),
    StableHlo.binary main_v18 main_v17 main_v19 (Host.divf : (⟨S16384x5, .f32⟩ : BufTy).Contents (Elt F) → (⟨S16384x5, .f32⟩ : BufTy).Contents (Elt F) → (⟨S16384x5, .f32⟩ : BufTy).Contents (Elt F)),
    StableHlo.unary main_v19 main_v20 (Host.log : (⟨S16384x5, .f32⟩ : BufTy).Contents (Elt F) → (⟨S16384x5, .f32⟩ : BufTy).Contents (Elt F)),
    StableHlo.nullary main_cst_4 (constant S_ .f32 0x00000000#32),
    StableHlo.binary main_v20 main_cst_4 main_v21 ((fun x v => Host.reduceAdd x v reducesTo_S16384x5_S16384_d1 h_S_) : (⟨S16384x5, .f32⟩ : BufTy).Contents (Elt F) → (⟨S_, .f32⟩ : BufTy).Contents (Elt F) → (⟨S16384, .f32⟩ : BufTy).Contents (Elt F)),
    StableHlo.binary main_v10 main_v21 main_v22 (addf : (⟨S16384, .f32⟩ : BufTy).Contents (Elt F) → (⟨S16384, .f32⟩ : BufTy).Contents (Elt F) → (⟨S16384, .f32⟩ : BufTy).Contents (Elt F)),
    StableHlo.nullary main_cst_5 (constant S_ .f32 0x00000000#32),
    StableHlo.binary main_v22 main_cst_5 main_v23 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    StableHlo.nullary main_cst_6 (constant S_ .f32 0x46800000#32),
    StableHlo.binary main_v23 main_cst_6 main_v24 (Host.divf : (⟨S_, .f32⟩ : BufTy).Contents (Elt F) → (⟨S_, .f32⟩ : BufTy).Contents (Elt F) → (⟨S_, .f32⟩ : BufTy).Contents (Elt F)),
    StableHlo.unary main_v24 main_v25 (Host.negf : (⟨S_, .f32⟩ : BufTy).Contents (Elt F) → (⟨S_, .f32⟩ : BufTy).Contents (Elt F)) ]

/-- The line is its five stretches, one after the other. -/
theorem ops_eq : (ops : List (HloOp τ sig (Elt F))) = opsA ++ (opsB ++ (opsC ++ (opsD ++ opsE))) := rfl

/-- The contents after two stretches run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The first lookup's body, its inner select unfolded at its call, is stretch A run in order: both sides are one
    chain of operation steps once sequencing is re-associated. -/
theorem takeA_eq : fn_take.body (F := F) (.of main_arg3) (.of main_arg0) main_call0 = seq opsA := by
  simp only [fn_take.body, fn_where.body, seq, bind_assoc, pure_bind]

/-- The second lookup's body is stretch B. -/
theorem takeB_eq : fn_take.body (F := F) (.of main_arg4) (.of main_arg1) main_call1 = seq opsB := by
  simp only [fn_take.body, fn_where.body, seq, bind_assoc, pure_bind]

/-- The third lookup's body is stretch D. -/
theorem takeD_eq : fn_take_0.body (F := F) (.of main_arg4) (.of main_arg2) main_call2 = seq opsD := by
  simp only [fn_take_0.body, fn_where_1.body, seq, bind_assoc, pure_bind]

/-- @main is that straight line: the three lookups are stretches A, B and D, and @main's own operations between
    and after them are stretches C and E. -/
theorem main_eq (c : Dev nD) : main (F := F) c = seq ops := by
  rw [ops_eq, seq_append, seq_append, seq_append, seq_append, ← takeA_eq, ← takeB_eq, ← takeD_eq]
  simp only [main, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., nullary_bufs_sub .., binary_bufs_sub .., unary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., unary_bufs_sub .., unary_bufs_sub .., unary_bufs_sub .., nullary_bufs_sub .., unary_bufs_sub .., binary_bufs_sub .., nullary_bufs_sub .., unary_bufs_sub .., binary_bufs_sub .., unary_bufs_sub .., nullary_bufs_sub .., binary_bufs_sub .., binary_bufs_sub .., nullary_bufs_sub .., binary_bufs_sub .., nullary_bufs_sub .., binary_bufs_sub .., unary_bufs_sub ..⟩

/-! ## What each stretch writes, and what it leaves alone -/

/-- One operation's result buffer is in the stretch's list. -/
local macro "w1" : term =>
  `(by simp only [nullary_writes, unary_writes, binary_writes, ternary_writes, Finset.singleton_subset_iff, List.mem_toFinset]
       exact List.mem_map_of_mem (by decide))

/-- The buffers stretch A writes. -/
abbrev opsA_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]
theorem opsA_writes : (opsA : List (HloOp τ sig (Elt F))).Forall fun op =>
    op.writes ⊆ (opsA_W.map (Proc.devRef (τ := τ) .tc)).toFinset := by
  simp only [List.Forall]
  exact ⟨w1, w1, w1, w1, w1, w1, w1, w1, w1, w1, w1, w1, w1, w1, w1, w1, w1, w1, w1, w1, w1, w1, w1⟩
/-- A buffer stretch A does not write keeps its contents through it. -/
theorem keepA (V : Valuation τ sig (Elt F)) (r : Ref sig .tc) (h : r ∉ opsA_W) :
    after opsA V (Proc.devRef .tc r) = V (Proc.devRef .tc r) :=
  after_of_writes_sub opsA V opsA_writes h

/-- The buffers stretch B writes. -/
abbrev opsB_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v1]
theorem opsB_writes : (opsB : List (HloOp τ sig (Elt F))).Forall fun op =>
    op.writes ⊆ (opsB_W.map (Proc.devRef (τ := τ) .tc)).toFinset := by
  simp only [List.Forall]
  exact ⟨w1, w1, w1, w1, w1, w1, w1, w1, w1, w1, w1, w1, w1, w1, w1, w1, w1, w1, w1, w1, w1, w1, w1⟩
/-- A buffer stretch B does not write keeps its contents through it. -/
theorem keepB (V : Valuation τ sig (Elt F)) (r : Ref sig .tc) (h : r ∉ opsB_W) :
    after opsB V (Proc.devRef .tc r) = V (Proc.devRef .tc r) :=
  after_of_writes_sub opsB V opsB_writes h

/-- The buffers stretch C writes. -/
abbrev opsC_W : List (Ref sig .tc) := [main_v2, main_cst, main_v3, main_v4, main_v5, main_cst_0, main_v6, main_v7, main_cst_1, main_v8, main_v9, main_v10]
theorem opsC_writes : (opsC : List (HloOp τ sig (Elt F))).Forall fun op =>
    op.writes ⊆ (opsC_W.map (Proc.devRef (τ := τ) .tc)).toFinset := by
  simp only [List.Forall]
  exact ⟨w1, w1, w1, w1, w1, w1, w1, w1, w1, w1, w1, w1⟩
/-- A buffer stretch C does not write keeps its contents through it. -/
theorem keepC (V : Valuation τ sig (Elt F)) (r : Ref sig .tc) (h : r ∉ opsC_W) :
    after opsC V (Proc.devRef .tc r) = V (Proc.devRef .tc r) :=
  after_of_writes_sub opsC V opsC_writes h

/-- The buffers stretch D writes. -/
abbrev opsD_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v11]
theorem opsD_writes : (opsD : List (HloOp τ sig (Elt F))).Forall fun op =>
    op.writes ⊆ (opsD_W.map (Proc.devRef (τ := τ) .tc)).toFinset := by
  simp only [List.Forall]
  exact ⟨w1, w1, w1, w1, w1, w1, w1, w1, w1, w1, w1, w1, w1, w1, w1, w1, w1, w1, w1, w1, w1, w1, w1⟩
/-- A buffer stretch D does not write keeps its contents through it. -/
theorem keepD (V : Valuation τ sig (Elt F)) (r : Ref sig .tc) (h : r ∉ opsD_W) :
    after opsD V (Proc.devRef .tc r) = V (Proc.devRef .tc r) :=
  after_of_writes_sub opsD V opsD_writes h

/-- The buffers stretch E writes. -/
abbrev opsE_W : List (Ref sig .tc) := [main_v12, main_v13, main_v14, main_v15, main_cst_2, main_v16, main_v17, main_cst_3, main_v18, main_v19, main_v20, main_cst_4, main_v21, main_v22, main_cst_5, main_v23, main_cst_6, main_v24, main_v25]
theorem opsE_writes : (opsE : List (HloOp τ sig (Elt F))).Forall fun op =>
    op.writes ⊆ (opsE_W.map (Proc.devRef (τ := τ) .tc)).toFinset := by
  simp only [List.Forall]
  exact ⟨w1, w1, w1, w1, w1, w1, w1, w1, w1, w1, w1, w1, w1, w1, w1, w1, w1, w1, w1⟩
/-- A buffer stretch E does not write keeps its contents through it. -/
theorem keepE (V : Valuation τ sig (Elt F)) (r : Ref sig .tc) (h : r ∉ opsE_W) :
    after opsE V (Proc.devRef .tc r) = V (Proc.devRef .tc r) :=
  after_of_writes_sub opsE V opsE_writes h

/-! ## Each stretch's result -/

section Results
-- the reductions, the gathers and the contraction stay folded: the equations below never look inside them
attribute [local irreducible] Host.reduce Host.gather Host.reduceAdd

/-- After the first lookup its result buffer holds the rows of the first table at the center words. -/
theorem resA (V : Valuation τ sig (Elt F)) :
    after opsA V (Proc.devRef .tc main_v0) = takeRows (V (Proc.devRef .tc main_arg3)) (V (Proc.devRef .tc main_arg0)) := by
  simp only [opsA]
  after_results_simp
  rfl

/-- After the second lookup its result buffer holds the rows of the second table at the context words. -/
theorem resB (V : Valuation τ sig (Elt F)) :
    after opsB V (Proc.devRef .tc main_v1) = takeRows (V (Proc.devRef .tc main_arg4)) (V (Proc.devRef .tc main_arg1)) := by
  simp only [opsB]
  after_results_simp
  rfl

/-- After the positive part its result buffer holds log σ of the row products of the two lookups. -/
theorem resC (V : Valuation τ sig (Elt F)) :
    after opsC V (Proc.devRef .tc main_v10) = posPart (V (Proc.devRef .tc main_v0)) (V (Proc.devRef .tc main_v1)) := by
  simp only [opsC]
  after_results_simp
  rfl

/-- After the third lookup its result buffer holds the rows of the second table at the negative samples. -/
theorem resD (V : Valuation τ sig (Elt F)) :
    after opsD V (Proc.devRef .tc main_v11) = takeRows5 (V (Proc.devRef .tc main_arg4)) (V (Proc.devRef .tc main_arg2)) := by
  simp only [opsD]
  after_results_simp
  rfl

/-- After the last stretch the result buffer holds minus the mean of the positive part plus the negative part. -/
theorem resE (V : Valuation τ sig (Elt F)) :
    after opsE V (Proc.devRef .tc main_v25) = finish (V (Proc.devRef .tc main_v10)) (negPart (V (Proc.devRef .tc main_v11)) (V (Proc.devRef .tc main_v1))) := by
  simp only [opsE]
  after_results_simp
  rfl

end Results

/-! ## The whole line -/

/-- After the whole line the result buffer holds `refOut` of the five arguments' contents. -/
theorem out_eq (V : Valuation τ sig (Elt F)) :
    after ops V (Proc.devRef .tc main_v25)
      = refOut (V (Proc.devRef .tc main_arg0)) (V (Proc.devRef .tc main_arg1)) (V (Proc.devRef .tc main_arg2)) (V (Proc.devRef .tc main_arg3)) (V (Proc.devRef .tc main_arg4)) := by
  rw [ops_eq, after_append, after_append, after_append, after_append, resE,
    keepD _ main_v10 (by decide), resC, keepB _ main_v0 (by decide), resA, resD,
    keepD _ main_v1 (by decide), keepC _ main_v1 (by decide), resB,
    keepC _ main_arg4 (by decide), keepC _ main_arg2 (by decide), keepB _ main_arg4 (by decide), keepB _ main_arg2 (by decide),
    keepA _ main_arg4 (by decide), keepA _ main_arg1 (by decide), keepA _ main_arg2 (by decide)]
  rfl

/-- A buffer none of the five stretches writes keeps its contents through the whole line. -/
theorem keep_all (V : Valuation τ sig (Elt F)) (r : Ref sig .tc) (hA : r ∉ opsA_W) (hB : r ∉ opsB_W) (hC : r ∉ opsC_W)
    (hD : r ∉ opsD_W) (hE : r ∉ opsE_W) : after ops V (Proc.devRef .tc r) = V (Proc.devRef .tc r) := by
  rw [ops_eq, after_append, after_append, after_append, after_append, keepE _ r hE, keepD _ r hD, keepC _ r hC,
    keepB _ r hB, keepA _ r hA]

/-- THE RUN. On every device, for any float values, from any memory with zero counters: every weakly fair
    execution of @main terminates, the result buffer holds `refOut` of the arguments' launch contents, and the
    five arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
        = refOut (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v25).trans (out_eq _),
      (h c main_arg0).trans (keep_all _ main_arg0 (by decide) (by decide) (by decide) (by decide) (by decide)),
      (h c main_arg1).trans (keep_all _ main_arg1 (by decide) (by decide) (by decide) (by decide) (by decide)),
      (h c main_arg2).trans (keep_all _ main_arg2 (by decide) (by decide) (by decide) (by decide) (by decide)),
      (h c main_arg3).trans (keep_all _ main_arg3 (by decide) (by decide) (by decide) (by decide) (by decide)),
      (h c main_arg4).trans (keep_all _ main_arg4 (by decide) (by decide) (by decide) (by decide) (by decide))⟩)
    (run_seq scopedRefs_eq scopedSems_eq defs main (fun _ => ops) main_eq (fun _ => ops_sub) m ρ)

end Cert.ReferenceIdeal.RefValue

end
-- ==== Proof.RefFrame.lean ====
/-
  The reference's frame: under the precondition (which the run does not need) every weakly fair execution of the
  reference terminates and leaves its five argument arrays unchanged — its run with the result's value dropped.
-/
import proofs.«218857_g62938450756068_cont_9to1c4b_813_41_alg».proof.Defs
import proofs.«218857_g62938450756068_cont_9to1c4b_813_41_alg».proof.Proof.RefRun
import proofs.«218857_g62938450756068_cont_9to1c4b_813_41_alg».proof.Proof.Gen.Pre_input_domain

noncomputable section

namespace Cert.ReferenceIdeal.RefValue

open Idealize.ShloMosaic Idealize.SL.Sem

/-- The reference runs to its end, faults nowhere, and its arguments end unchanged. -/
theorem frame_ri : Cert.frame_ReferenceIdeal := fun m g _ =>
  (θ_run (Cert.ReferenceIdeal.defs (F := Ideal)) _ _).mono (fun _ h c => (h c).2) (run (F := Ideal) m g)

end Cert.ReferenceIdeal.RefValue

end
-- ==== Proof.KernelIdealBase.lean ====
/-
  The program as the launch theorem sees it, and the names every later module shares: the SparseCore
  configuration and its side conditions, the body table, the ghost state (the handshakes' rounds beside the
  transfers' counters: a tile's copies complete on its own semaphores and no tile signals another, so no
  schedule of the kernels' own is needed), and the arrays' locations on a device.

  The batch is 16384 elements, dealt to the 32 vector subcores in slices of 512: subcore `s` of SparseCore `c`
  works on elements `[512·(2s + c), 512·(2s + c) + 512)`.
-/
import proofs.«218857_g62938450756068_cont_9to1c4b_813_41_alg».proof.KernelIdeal
import proofs.«218857_g62938450756068_cont_9to1c4b_813_41_alg».proof.Proof.Gen.KernelIdeal
import proofs.«218857_g62938450756068_cont_9to1c4b_813_41_alg».proof.Proof.Gen.KernelIdeal.Skeleton
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Proof.KernelIdealBase

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 1) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_eq (q : Fin 2) : (K (F := F)).nCore q = 2 := by fin_cases q <;> rfl
theorem nSub_eq (q : Fin 2) : (K (F := F)).nSub q = 16 := by fin_cases q <;> rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The handshakes' rounds; the TensorCore pipeline's staging cells' rounds; the transfers' counters (found by
    instance in the right factor). -/
abbrev UH : Type := URounds (GSem nD τ sig) ℕ
abbrev UP : Type := URounds (GSem nD τ sig) Unit
abbrev UU : Type := UH × (UP × Counters)

abbrev EH : Emb UH (MT nD τ sig (HIx 2) (Elt F) ℕ UU ℕ) := embL
def EP : Emb UP (MT nD τ sig (HIx 2) (Elt F) ℕ UU ℕ) :=
  ((Emb.inl : Emb UP (UP × Counters)).trans (Emb.inr : Emb (UP × Counters) UU)).trans
    (uEmb (nD := nD) (sig := sig) (Ix := HIx 2) (Val := Elt F) (Name := ℕ) (U := UU) (Lvl := ℕ)).toEmb
instance EP_landsIn : (EP : Emb UP (MT nD τ sig (HIx 2) (Elt F) ℕ UU ℕ)).LandsIn (upEmb : UEmb _ (MT nD τ sig (HIx 2) (Elt F) ℕ UU ℕ)) := by
  unfold EP; infer_instance

/-! ## The arrays -/

/-- The three index arrays, the two tables, the reshaped negatives, and the kernels' results, on device `d`. -/
abbrev centerLoc (d : Dev nD) : Loc nD τ sig := (SparseCore.T d).loc main_arg0
abbrev ctxLoc (d : Dev nD) : Loc nD τ sig := (SparseCore.T d).loc main_arg1
abbrev negLoc (d : Dev nD) : Loc nD τ sig := (SparseCore.T d).loc main_arg2
abbrev evLoc (d : Dev nD) : Loc nD τ sig := (SparseCore.T d).loc main_arg3
abbrev euLoc (d : Dev nD) : Loc nD τ sig := (SparseCore.T d).loc main_arg4
abbrev negFlatLoc (d : Dev nD) : Loc nD τ sig := (SparseCore.T d).loc main_v0
abbrev pnegLoc (d : Dev nD) : Loc nD τ sig := (SparseCore.T d).loc main_v1_0
abbrev urowsLoc (d : Dev nD) : Loc nD τ sig := (SparseCore.T d).loc main_v1_1
abbrev pposLoc (d : Dev nD) : Loc nD τ sig := (SparseCore.T d).loc main_v2

/-- The batch slice a vector subcore works on: subcore `s` of SparseCore `c` is worker `2s + c`. -/
def wid (c : Fin 2) (s : Fin 16) : Fin 32 := ⟨2 * s.val + c.val, by omega⟩

end Cert.Proof.KernelIdealBase

end
-- ==== Proof.TileUDefs.lean ====
/-
  The first SparseCore kernel on one vector subcore: what the subcore is handed and what it hands back.

  Subcore s of SparseCore c is worker w = 2s + c and works on batch elements [512w, 512w + 512). It reads its
  512 context words and its 2560 negative words (the negatives flattened: element 5b + k is the k-th negative
  of batch element b), reads rows of the table eu, and writes (i) the rows eu[ctx b] for its batch elements into
  rows [512w, 512w + 512) of a 16384 x 64 array, a pure copy, and (ii) for every batch element b, negative k
  and lane l < 16 the number
      0 - (((n0 u0 + n1 u1) + n2 u2) + n3 u3),   n_t = eu[neg b k][16 t + l],  u_t = eu[ctx b][16 t + l],
  at position (5b + k) 16 + l of a flat array of 1310720 numbers: sixteen partial sums of the inner product
  of the two rows, negated. The row an index word names is the word read unsigned, reduced mod 1000000 (the
  word itself when it is below 1000000).
-/
import proofs.«218857_g62938450756068_cont_9to1c4b_813_41_alg».proof.Proof.KernelIdealBase
import Idealize.ShloMosaic.Lib.ValueIdx

noncomputable section

namespace Cert.Proof.TileU

open Cert.KernelIdeal Cert.KernelIdeal.Gen Cert.Proof.KernelIdealBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## The subcore and its worker number -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- Worker 2s + c of the subcore at grid coordinates (c, s). -/
def wL (L : grid0.Coords) : Fin 32 := wid (Fin.cast bound_zero (L 0)) (Fin.cast bound_one (L 1))
theorem wL_val (L : grid0.Coords) : (wL L).val = 2 * (L 1).val + (L 0).val := rfl

/-! ## The four slices, as parts of the arrays cut in 32 along the leading axis -/

theorem hdivCtx : 32 ∣ S16384.size 0 := ⟨512, rfl⟩
theorem hdivNeg : 32 ∣ S81920.size 0 := ⟨2560, rfl⟩
theorem hdivRows : 32 ∣ S16384x64.size 0 := ⟨512, rfl⟩
theorem hdivOut : 32 ∣ S1310720.size 0 := ⟨40960, rfl⟩

/-- Context words [512w, 512w + 512). -/
abbrev ctxRect (w : Fin 32) : Rect S16384 := Rect.part (s := S16384) (a₀ := 0) hdivCtx w
abbrev ctxSlice (w : Fin 32) : Finset S16384.Idx := (ctxRect w).set
/-- Flattened negative words [2560w, 2560w + 2560). -/
abbrev negRect (w : Fin 32) : Rect S81920 := Rect.part (s := S81920) (a₀ := 0) hdivNeg w
abbrev negSlice (w : Fin 32) : Finset S81920.Idx := (negRect w).set
/-- Rows [512w, 512w + 512) of the copied context rows, all 64 columns. -/
abbrev urowsRect (w : Fin 32) : Rect S16384x64 := Rect.part (s := S16384x64) (a₀ := 0) hdivRows w
abbrev urowsSlice (w : Fin 32) : Finset S16384x64.Idx := (urowsRect w).set
/-- Partial products [40960w, 40960w + 40960). -/
abbrev pnegRect (w : Fin 32) : Rect S1310720 := Rect.part (s := S1310720) (a₀ := 0) hdivOut w
abbrev pnegSlice (w : Fin 32) : Finset S1310720.Idx := (pnegRect w).set

/-! ### The same slices as the program cuts them -/

section Spelling

variable (L : grid0.Coords)

abbrev ctxRectK : Rect S16384 := Rect.unit (s := S16384) (k0_off1 L) S512.size (k0_off1_inb L)
abbrev negRectK : Rect S81920 := Rect.unit (s := S81920) (k0_off2 L) S2560.size (k0_off2_inb L)
abbrev pnegRectK : Rect S1310720 := Rect.unit (s := S1310720) (k0_off1884 L) S40960.size (k0_off1884_inb L)

theorem ctxRectK_eq : ctxRectK L = ctxRect (wL L) := by
  unfold ctxRectK ctxRect Rect.part Rect.block
  congr 1 <;> funext a
  · rw [k0_off1_eq]
    match a with
    | 0 => simp [Shape.partIx, Shape.partSize, wL_val]; omega
  · match a with
    | 0 => simp [Shape.partSize]
theorem negRectK_eq : negRectK L = negRect (wL L) := by
  unfold negRectK negRect Rect.part Rect.block
  congr 1 <;> funext a
  · rw [k0_off2_eq]
    match a with
    | 0 => simp [Shape.partIx, Shape.partSize, wL_val]; omega
  · match a with
    | 0 => simp [Shape.partSize]
theorem pnegRectK_eq : pnegRectK L = pnegRect (wL L) := by
  unfold pnegRectK pnegRect Rect.part Rect.block
  congr 1 <;> funext a
  · rw [k0_off1884_eq]
    match a with
    | 0 => simp [Shape.partIx, Shape.partSize, wL_val]; omega
  · match a with
    | 0 => simp [Shape.partSize]

/-- The three slices as memrefs of the subcore, in the program's spelling. -/
abbrev ctxK : Memref sig .scVector .hbm S512 .i32 :=
  (Memref.whole main_arg1_scv : Memref sig .scVector .hbm S16384 .i32).slice (ctxRectK L) (fun _ => rfl)
abbrev negK : Memref sig .scVector .hbm S2560 .i32 :=
  (Memref.whole main_v0_scv : Memref sig .scVector .hbm S81920 .i32).slice (negRectK L) (fun _ => rfl)
abbrev pnegK : Memref sig .scVector .hbm S40960 .f32 :=
  (Memref.whole main_v1_0_scv : Memref sig .scVector .hbm S1310720 .f32).slice (pnegRectK L) (fun _ => rfl)

theorem set_ctxK : (ctxK L).view.set = ctxSlice (wL L) := by
  show ((Memref.whole main_arg1_scv : Memref sig .scVector .hbm S16384 .i32).view.slice (ctxRectK L)).set = (ctxRect (wL L)).set
  rw [ctxRectK_eq]; exact View.set_slice_whole _ _
theorem set_negK : (negK L).view.set = negSlice (wL L) := by
  show ((Memref.whole main_v0_scv : Memref sig .scVector .hbm S81920 .i32).view.slice (negRectK L)).set = (negRect (wL L)).set
  rw [negRectK_eq]; exact View.set_slice_whole _ _
theorem set_pnegK : (pnegK L).view.set = pnegSlice (wL L) := by
  show ((Memref.whole main_v1_0_scv : Memref sig .scVector .hbm S1310720 .f32).view.slice (pnegRectK L)).set = (pnegRect (wL L)).set
  rw [pnegRectK_eq]; exact View.set_slice_whole _ _

/-- Row block r < 8 of the subcore's 512 rows: rows [512w + 64r, 512w + 64r + 64). -/
abbrev urowsRectK (r : Fin 8) : Rect S16384x64 :=
  Rect.unit (s := S16384x64) (k0_off238 L (BitVec.ofNat 32 (64 * r.val))) S64x64.size (k0_off238_inb L r)
abbrev urowsK (r : Fin 8) : Memref sig .scVector .hbm S64x64 .f32 :=
  (Memref.whole main_v1_1_scv : Memref sig .scVector .hbm S16384x64 .f32).slice (urowsRectK L r) (fun _ => rfl)
theorem mem_urowsRectK (r : Fin 8) (y : S16384x64.Idx) :
    y ∈ (urowsRectK L r).set ↔ 512 * (wL L).val + 64 * r.val ≤ (y 0).val ∧ (y 0).val < 512 * (wL L).val + 64 * r.val + 64 := by
  have h1 : (y 1).val < 64 := (y 1).isLt
  rw [Rect.mem_set_unit, k0_off238_eq, wL_val]
  constructor
  · intro H; have a0 := H 0
    simp only [Matrix.cons_val_zero] at a0
    have : S64x64.size 0 = 64 := rfl
    omega
  · intro H a
    match a with
    | 0 => simp only [Matrix.cons_val_zero]; have : S64x64.size 0 = 64 := rfl; omega
    | 1 => simp only [Matrix.cons_val_one, Matrix.cons_val_zero]; have : S64x64.size 1 = 64 := rfl; omega

end Spelling

/-! ## The values -/

variable (m : (ℓ : Loc nD τ sig) → Buf (Elt F) ℓ)

/-- The table row the context word of batch element b names. -/
def ctxRow (d : Dev nD) (b : Fin 16384) : Fin 1000000 :=
  ⟨(m (ctxLoc d) (ix1 b) : BitVec 32).toNat % 1000000, Nat.mod_lt _ (by decide)⟩
/-- The table row the k-th negative word of batch element b names. -/
def negRow (d : Dev nD) (b : Fin 16384) (k : Fin 5) : Fin 1000000 :=
  ⟨(m (negLoc d) (ix2 b k) : BitVec 32).toNat % 1000000, Nat.mod_lt _ (by decide)⟩

/-- The copied context rows: row b is row ctx b of the table. -/
def urowsF (d : Dev nD) : Buf (Elt F) (urowsLoc d) :=
  fun y : S16384x64.Idx => (m (euLoc d) : S1000000x64.Idx → F .f32) (ix2 (ctxRow m d (y 0)) (y 1))

variable [FloatOps F]

/-- Lane l of piece t (columns [16t, 16t + 16)) of a table row. -/
def piece (d : Dev nD) (r : Fin 1000000) (t : Fin 4) (l : Fin 16) : F .f32 :=
  (m (euLoc d) : S1000000x64.Idx → F .f32) (ix2 r ⟨16 * t.val + l.val, by omega⟩)

/-- One partial product: 0 - (((n0 u0 + n1 u1) + n2 u2) + n3 u3) at a lane, n the negative's row, u the context's. -/
def partial1 (d : Dev nD) (b : Fin 16384) (k : Fin 5) (l : Fin 16) : F .f32 :=
  FloatOps.subf (Scalar.ofBits .f32 0x00000000#32)
    (FloatOps.addf (FloatOps.addf (FloatOps.addf
      (FloatOps.mulf (piece m d (negRow m d b k) 0 l) (piece m d (ctxRow m d b) 0 l))
      (FloatOps.mulf (piece m d (negRow m d b k) 1 l) (piece m d (ctxRow m d b) 1 l)))
      (FloatOps.mulf (piece m d (negRow m d b k) 2 l) (piece m d (ctxRow m d b) 2 l)))
      (FloatOps.mulf (piece m d (negRow m d b k) 3 l) (piece m d (ctxRow m d b) 3 l)))

/-- The partial products: position (5b + k) 16 + l holds partial product (b, k, l). -/
def pnegF (d : Dev nD) : Buf (Elt F) (pnegLoc d) :=
  fun p : S1310720.Idx =>
    partial1 m d ⟨(p 0).val / 80, by have h : (p 0).val < 1310720 := (p 0).isLt; omega⟩ ⟨(p 0).val / 16 % 5, Nat.mod_lt _ (by decide)⟩
      ⟨(p 0).val % 16, Nat.mod_lt _ (by decide)⟩

/-! ## What the subcore is handed and hands back -/

/-- The reshaped negatives hold, at 5b + k, the k-th negative word of batch element b. -/
def IsFlat (d : Dev nD) (NF : Buf (Elt F) (negFlatLoc d)) : Prop :=
  ∀ (b : Fin 16384) (k : Fin 5), (NF : S81920.Idx → BitVec 32) (ix1 ⟨5 * b.val + k.val, by omega⟩) = m (negLoc d) (ix2 b k)

/-- Handed: the subcore's context and negative words, a read share of the whole table, and its slices of the
    two results at whatever they hold. -/
def goU (d : Dev nD) (L : grid0.Coords) (NF : Buf (Elt F) (negFlatLoc d)) (fp : Buf (Elt F) (pnegLoc d)) (fu : Buf (Elt F) (urowsLoc d)) : sProp 𝕄 :=
  iprop((ctxLoc d ↦[ctxSlice (wL L)]{fullShare} m (ctxLoc d)) ∗ (negFlatLoc d ↦[negSlice (wL L)]{fullShare} NF)
    ∗ (euLoc d ↦{Transfers.shareTok fullShare 32 (wL L)} m (euLoc d))
    ∗ (pnegLoc d ↦[pnegSlice (wL L)]{fullShare} fp) ∗ (urowsLoc d ↦[urowsSlice (wL L)]{fullShare} fu))

/-- Handed back: the same, the two result slices at the partial products and the copied rows. -/
def tdU (d : Dev nD) (L : grid0.Coords) (NF : Buf (Elt F) (negFlatLoc d)) : sProp 𝕄 :=
  goU m d L NF (pnegF m d) (urowsF m d)

/-- Every index word names a table row. -/
def PreOKU : Prop :=
  ∀ d : Dev nD, (∀ b : Fin 16384, (m (ctxLoc d) (ix1 b) : BitVec 32).toNat < 1000000)
    ∧ (∀ (b : Fin 16384) (k : Fin 5), (m (negLoc d) (ix2 b k) : BitVec 32).toNat < 1000000)

end Cert.Proof.TileU

end
-- ==== Proof.TileVDefs.lean ====
/-
  The second SparseCore kernel (the positive scores' partial products), as one vector subcore sees it: the
  slices of the arrays it works on, and the value it leaves.

  Worker `w = 2s + c` (vector subcore `s` of SparseCore `c`) owns batch elements `[512w, 512w + 512)`. It reads
  that slice of the centre words, those rows of the context rows the first kernel left, and rows of the whole
  embedding table `ev` named by the centre words; it writes entries `[8192w, 8192w + 8192)` of the partial
  products: entry `16b + l` is `((v₀·u₀ + v₁·u₁) + v₂·u₂) + v₃·u₃` with `v_t = ev[center b][16t + l]` and
  `u_t = urows[b][16t + l]` — lane `l` of the four 16-lane groups of the two rows, multiplied and summed in that
  order.
-/
import proofs.«218857_g62938450756068_cont_9to1c4b_813_41_alg».proof.Proof.KernelIdealBase
import Idealize.ShloMosaic.Lib.ValueIdx
import Idealize.ShloMosaic.Lib.Transfers

noncomputable section

namespace Cert.Proof.TileVDefs

open Cert.KernelIdeal Cert.KernelIdeal.Gen Cert.Proof.KernelIdealBase

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## The subcore and its worker number -/

abbrev cV (L : grid1.Coords) : Fin τ.nSC := (L 0).castLE hcore1
abbrev jV (L : grid1.Coords) : Fin τ.nSub := (L 1).castLE hsub1

theorem bound_zero : grid1.bound 0 = 2 := rfl
theorem bound_one : grid1.bound 1 = 16 := rfl

/-- The worker number of the subcore at grid coordinates `L`: `2 · (L 1) + (L 0)`. -/
def wL (L : grid1.Coords) : Fin 32 := wid (Fin.cast bound_zero (L 0)) (Fin.cast bound_one (L 1))

theorem wL_val (L : grid1.Coords) : (wL L).val = 2 * (L 1).val + (L 0).val := rfl

/-! ## The slices, as parts of the arrays' leading axis -/

theorem hdiv_center : 32 ∣ S16384.size 0 := ⟨512, rfl⟩
theorem hdiv_urows : 32 ∣ S16384x64.size 0 := ⟨512, rfl⟩
theorem hdiv_ppos : 32 ∣ S262144.size 0 := ⟨8192, rfl⟩

/-- Worker `w`'s centre words: entries `[512w, 512w + 512)`. -/
abbrev centerRect (w : Fin 32) : Rect S16384 := Rect.part (s := S16384) (a₀ := 0) hdiv_center w
abbrev centerSlice (w : Fin 32) : Finset S16384.Idx := (centerRect w).set
/-- Worker `w`'s context rows: rows `[512w, 512w + 512)`, all 64 columns. -/
abbrev urowsRect (w : Fin 32) : Rect S16384x64 := Rect.part (s := S16384x64) (a₀ := 0) hdiv_urows w
abbrev urowsSlice (w : Fin 32) : Finset S16384x64.Idx := (urowsRect w).set
/-- Worker `w`'s partial products: entries `[8192w, 8192w + 8192)`. -/
abbrev pposRect (w : Fin 32) : Rect S262144 := Rect.part (s := S262144) (a₀ := 0) hdiv_ppos w
abbrev pposSlice (w : Fin 32) : Finset S262144.Idx := (pposRect w).set

/-! ## The value -/

variable (m : (ℓ : Loc nD τ sig) → Buf (Elt F) ℓ)

/-- The table row the centre word of batch element `b` names (the word read unsigned, reduced mod the table's
    extent so that the function is total; where the word is below 1000000 it is the word itself). -/
def centerRow (d : Dev nD) (b : Fin 16384) : Fin 1000000 :=
  ⟨((m (centerLoc d) : S16384.Idx → BitVec 32) (ix1 b)).toNat % 1000000, Nat.mod_lt _ (by decide)⟩

/-- Entry `16t + l` of a 64-entry row. -/
abbrev lane (t : Fin 4) (l : Fin 16) : Fin 64 := ⟨16 * t.val + l.val, by omega⟩

variable [FloatOps F]

/-- Lane `l` of batch element `b`'s four partial products, summed in the kernel's order. -/
def pposAt (d : Dev nD) (U : Buf (Elt F) (urowsLoc d)) (b : Fin 16384) (l : Fin 16) : F .f32 :=
  let v : Fin 4 → F .f32 := fun t => (m (evLoc d) : S1000000x64.Idx → F .f32) (ix2 (centerRow m d b) (lane t l))
  let u : Fin 4 → F .f32 := fun t => (U : S16384x64.Idx → F .f32) (ix2 b (lane t l))
  FloatOps.addf (FloatOps.addf (FloatOps.addf (FloatOps.mulf (v 0) (u 0)) (FloatOps.mulf (v 1) (u 1))) (FloatOps.mulf (v 2) (u 2))) (FloatOps.mulf (v 3) (u 3))

/-- The partial products as ONE function of the arguments and the context rows: entry `16b + l` is lane `l` of
    batch element `b`. -/
def pposF (d : Dev nD) (U : Buf (Elt F) (urowsLoc d)) : Buf (Elt F) (pposLoc d) :=
  fun y : S262144.Idx =>
    pposAt m d U ⟨(y 0).val / 16, by have h : (y 0).val < 262144 := (y 0).isLt; show (y 0).val / 16 < 16384; omega⟩ ⟨(y 0).val % 16, Nat.mod_lt _ (by decide)⟩

/-! ## What a subcore is given and what it hands back -/

/-- Given: its slice of the centre words, a read share of the whole table `ev` (one of 32 tokens of the full
    share), its rows of the context rows, and its slice of the partial products at the launch contents. -/
def goV (d : Dev nD) (L : grid1.Coords) (U : Buf (Elt F) (urowsLoc d)) (f0 : Buf (Elt F) (pposLoc d)) : sProp 𝕄 :=
  iprop((centerLoc d ↦[centerSlice (wL L)]{fullShare} m (centerLoc d))
    ∗ (evLoc d ↦{Transfers.shareTok fullShare 32 (wL L)} m (evLoc d))
    ∗ (urowsLoc d ↦[urowsSlice (wL L)]{fullShare} U)
    ∗ (pposLoc d ↦[pposSlice (wL L)]{fullShare} f0))

/-- Handed back: the same, the slice of the partial products at its value. -/
def tdV (d : Dev nD) (L : grid1.Coords) (U : Buf (Elt F) (urowsLoc d)) : sProp 𝕄 :=
  iprop((centerLoc d ↦[centerSlice (wL L)]{fullShare} m (centerLoc d))
    ∗ (evLoc d ↦{Transfers.shareTok fullShare 32 (wL L)} m (evLoc d))
    ∗ (urowsLoc d ↦[urowsSlice (wL L)]{fullShare} U)
    ∗ (pposLoc d ↦[pposSlice (wL L)]{fullShare} pposF m d U))

/-- Every centre word names a table row. -/
def PreOKV : Prop := ∀ (d : Dev nD) (b : Fin 16384), ((m (centerLoc d) : S16384.Idx → BitVec 32) (ix1 b)).toNat < 1000000

end Cert.Proof.TileVDefs

end
-- ==== Proof.KernelIdealPay.lean ====
/-
  What the two SparseCore calls hand over and take back, and the two obligations of the launch theorem that are
  bookkeeping: how a SparseCore's share of a call splits among its sixteen vector subcores, and that a vector
  subcore's task, once its body is proved at a symbolic subcore, is the obligation the theorem asks.

  Call 0 (the context and negative rows): every vector subcore is given its slice of the context words and of the
  flattened negative words, a read share of the table `eu`, and its slices of the two results; it hands the same
  back with the result slices at their values. Call 1 (the centre rows): its slice of the centre words, a read
  share of the table `ev`, its rows of the context rows call 0 left, and its slice of the result.
  A SparseCore's share is the sixteen subcores' shares side by side, so the split is the identity.
-/
import proofs.«218857_g62938450756068_cont_9to1c4b_813_41_alg».proof.Proof.KernelIdealBase
import proofs.«218857_g62938450756068_cont_9to1c4b_813_41_alg».proof.Proof.TileUDefs
import proofs.«218857_g62938450756068_cont_9to1c4b_813_41_alg».proof.Proof.TileVDefs

noncomputable section

namespace Cert.Proof.KernelIdealPay

open Cert.KernelIdeal Cert.KernelIdeal.Gen Cert.Proof.KernelIdealBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable (m : (ℓ : Loc nD τ sig) → Buf (Elt F) ℓ) (ρ : Dev nD → PrngReg)

/-! ## Grid coordinates from (SparseCore, subcore) -/

def coordsU (c : Fin (grid0.bound 0)) (s : Fin (grid0.bound 1)) : grid0.Coords :=
  fun | 0 => c | 1 => s | ⟨_ + 2, h⟩ => absurd h (Nat.not_lt.2 (Nat.le_add_left _ _))
def coordsV (c : Fin (grid1.bound 0)) (s : Fin (grid1.bound 1)) : grid1.Coords :=
  fun | 0 => c | 1 => s | ⟨_ + 2, h⟩ => absurd h (Nat.not_lt.2 (Nat.le_add_left _ _))

theorem nCore0 : (K (F := F)).nCore 0 = grid0.bound 0 := rfl
theorem nSub0 : (K (F := F)).nSub 0 = grid0.bound 1 := rfl
theorem nCore1 : (K (F := F)).nCore 1 = grid1.bound 0 := rfl
theorem nSub1 : (K (F := F)).nSub 1 = grid1.bound 1 := rfl

/-! ## The flattened negatives -/

/-- What the host's reshape leaves in the flattened negatives: entry `5b + k` is word `(b, k)`. -/
def negFlatF (d : Dev nD) : Buf (Elt F) (negFlatLoc d) :=
  shapeCast S81920 (m (negLoc d) : IVec S16384x5 32) shapeCasts_S16384x5_S81920

variable [FloatOps F]

/-! ## What the handshakes carry -/

/-- Call 0's share for subcore `i` of SparseCore `c`, the result slices at `fp`, `fu`; call 1's, the context rows at
    what call 0 left and the result slice at `f0`. -/
abbrev goAt0 (d : Dev nD) (c : Fin ((K (F := F)).nCore 0)) (i : Fin ((K (F := F)).nSub 0)) : sProp 𝕄 :=
  TileU.goU m d (coordsU (Fin.cast nCore0 c) (Fin.cast nSub0 i)) (negFlatF m d) (m (pnegLoc d)) (m (urowsLoc d))
abbrev tdAt0 (d : Dev nD) (c : Fin ((K (F := F)).nCore 0)) (i : Fin ((K (F := F)).nSub 0)) : sProp 𝕄 :=
  TileU.tdU m d (coordsU (Fin.cast nCore0 c) (Fin.cast nSub0 i)) (negFlatF m d)
abbrev goAt1 (d : Dev nD) (c : Fin ((K (F := F)).nCore 1)) (i : Fin ((K (F := F)).nSub 1)) : sProp 𝕄 :=
  TileVDefs.goV m d (coordsV (Fin.cast nCore1 c) (Fin.cast nSub1 i)) (TileU.urowsF m d) (m (pposLoc d))
abbrev tdAt1 (d : Dev nD) (c : Fin ((K (F := F)).nCore 1)) (i : Fin ((K (F := F)).nSub 1)) : sProp 𝕄 :=
  TileVDefs.tdV m d (coordsV (Fin.cast nCore1 c) (Fin.cast nSub1 i)) (TileU.urowsF m d)

def P : (K (F := F)).Pay (nD := nD) (Val := Elt F) (Name := ℕ) (U := UU) where
  st := fun q d c => match q with
    | 0 => bigSep Finset.univ fun i => goAt0 m d c i
    | 1 => bigSep Finset.univ fun i => goAt1 m d c i
  dn := fun q d c => match q with
    | 0 => bigSep Finset.univ fun i => tdAt0 m d c i
    | 1 => bigSep Finset.univ fun i => tdAt1 m d c i
  go := fun q d c i => match q with
    | 0 => goAt0 m d c i
    | 1 => goAt1 m d c i
  td := fun q d c i => match q with
    | 0 => tdAt0 m d c i
    | 1 => tdAt1 m d c i
  x := fun _ _ => iprop(emp)

instance P_storable : (P (F := F) m).IsStorable where
  st q d c := match q with
    | 0 => by unfold P; dsimp only [goAt0, TileU.goU]; infer_instance
    | 1 => by unfold P; dsimp only [goAt1, TileVDefs.goV]; infer_instance
  dn q d c := match q with
    | 0 => by unfold P; dsimp only [tdAt0, TileU.tdU, TileU.goU]; infer_instance
    | 1 => by unfold P; dsimp only [tdAt1, TileVDefs.tdV]; infer_instance
  go q d c i := match q with
    | 0 => by unfold P; dsimp only [goAt0, TileU.goU]; infer_instance
    | 1 => by unfold P; dsimp only [goAt1, TileVDefs.goV]; infer_instance
  td q d c i := match q with
    | 0 => by unfold P; dsimp only [tdAt0, TileU.tdU, TileU.goU]; infer_instance
    | 1 => by unfold P; dsimp only [tdAt1, TileVDefs.tdV]; infer_instance

/-! ## A SparseCore's share is its subcores' shares -/

theorem vecSplit (q : Fin 2) : (K (F := F)).VecSplit' (P m) q := by
  intro d c
  match q with
  | 0 =>
    show (bigSep Finset.univ fun i => goAt0 m d c i)
      ⊢ |={Set.univ}=> iprop((bigSep Finset.univ fun i => goAt0 m d c i) ∗ ((bigSep Finset.univ fun i => tdAt0 m d c i) -∗ bigSep Finset.univ fun i => tdAt0 m d c i))
    iintro H; imodintro
    isplitl [H]; · iexact H
    iintro H'; iexact H'
  | 1 =>
    show (bigSep Finset.univ fun i => goAt1 m d c i)
      ⊢ |={Set.univ}=> iprop((bigSep Finset.univ fun i => goAt1 m d c i) ∗ ((bigSep Finset.univ fun i => tdAt1 m d c i) -∗ bigSep Finset.univ fun i => tdAt1 m d c i))
    iintro H; imodintro
    isplitl [H]; · iexact H
    iintro H'; iexact H'

end Cert.Proof.KernelIdealPay

end
-- ==== Proof.KernelIdealOut.lean ====
/-
  What the kernel program leaves: the two partial-product arrays read as rows of 128, the loss kernel's word of
  them, and that word read as the scalar result; and the post of the program's run — the result at that value,
  the five arguments as they were.
-/
import proofs.«218857_g62938450756068_cont_9to1c4b_813_41_alg».proof.Proof.KernelIdealPay

noncomputable section

namespace Cert.Proof.KernelIdealOut

open Cert.KernelIdeal Cert.KernelIdeal.Gen Cert.Proof.KernelIdealBase Cert.Proof.KernelIdealPay

open Idealize.ShloMosaic
open Idealize.ShloMosaic.SparseCore (S V T)
open Idealize.SL.Sem

variable {F : FTy → Type} [FloatOps F]

variable (m : (ℓ : Loc nD τ sig) → Buf (Elt F) ℓ)

/-- The negative partial products as 10240 rows of 128, and the positive ones as 2048 rows of 128. -/
def pnRows (d : Dev nD) : Vec F S10240x128 .f32 := shapeCast S10240x128 (TileU.pnegF m d) Shapes1.Facts₀.shapeCasts_S1310720_S10240x128
def ppRows (d : Dev nD) : Vec F S2048x128 .f32 :=
  shapeCast S2048x128 (TileVDefs.pposF m d (TileU.urowsF m d)) Shapes1.Facts₀.shapeCasts_S262144_S2048x128

/-- The loss kernel's one word. -/
def lossWord (d : Dev nD) : Vec F S1x1 .f32 := fun _ => Gen.k2_pay1 (Gen.k2_pay3 (pnRows m d)) (Gen.k2_pay4 (ppRows m d))

/-- The program's result: that word, read as a scalar. -/
def outF (d : Dev nD) : Vec F S_ .f32 := shapeCast S_ (lossWord m d) Shapes1.Facts₀.shapeCasts_S1x1_S_

/-- The post of the kernel program's run: on every device the result is `outF` and the five arguments are unchanged. -/
def QC : PUnit × MemSt nD τ sig (Elt F) → Prop := fun r => ∀ c : Dev nD,
  r.2.mem ((c.tc : Thread nD τ).loc main_v6) = outF m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

end Cert.Proof.KernelIdealOut

end
-- ==== Proof.Spec.lean ====
/-
  The common specification: the skip-gram negative-sampling loss as ONE function of the five argument arrays,
  on the extended reals, index by index over literal shapes.

  For a batch element `b`: `v = ev[center b]`, `u = eu[ctx b]`, `n_k = eu[neg b k]` (rows of 64 entries). The
  positive score is `⟨v, u⟩`, the k-th negative score `⟨n_k, u⟩`, and the loss is
  `-( (∑ b, (log σ(⟨v,u⟩) + ∑ k, log σ(-⟨n_k,u⟩))) / 16384 )` with `σ` the logistic function.
  A row is named by its index word read unsigned and reduced mod 1000000, so the function is total; where an
  index word lies in [0, 999999] (read signed or unsigned: the same number) that is the word itself.
-/
import Idealize.ShloMosaic.PureOps.Ideal
import Idealize.ShloMosaic.Lib.ValueIdx

noncomputable section

open scoped BigOperators

namespace Cert.Spec

open Idealize.ShloMosaic Idealize.ShloMosaic.ValueIdx

abbrev SB : Shape := ⟨1, ![16384]⟩
abbrev SBK : Shape := ⟨2, ![16384, 5]⟩
abbrev STab : Shape := ⟨2, ![1000000, 64]⟩

/-- The table row an index word names. -/
def rowOf (w : BitVec 32) : Fin 1000000 := ⟨w.toNat % 1000000, Nat.mod_lt _ (by decide)⟩

/-- A word whose unsigned reading is below the table's extent names that row. -/
theorem rowOf_val_of_lt {w : BitVec 32} (h : w.toNat < 1000000) : (rowOf w).val = w.toNat :=
  Nat.mod_eq_of_lt h

/-- The inner product of row `i` of `A` with row `j` of `B`. -/
def dot (A B : STab.Idx → EReal) (i j : Fin 1000000) : EReal := ∑ d : Fin 64, A (ix2 i d) * B (ix2 j d)

/-- The positive score of batch element `b`: `⟨ev[center b], eu[ctx b]⟩`. -/
def posScore (center ctx : SB.Idx → BitVec 32) (ev eu : STab.Idx → EReal) (b : Fin 16384) : EReal :=
  dot ev eu (rowOf (center (ix1 b))) (rowOf (ctx (ix1 b)))

/-- The k-th negative score of batch element `b`: `⟨eu[neg b k], eu[ctx b]⟩`. -/
def negScore (ctx : SB.Idx → BitVec 32) (neg : SBK.Idx → BitVec 32) (eu : STab.Idx → EReal) (b : Fin 16384) (k : Fin 5) : EReal :=
  dot eu eu (rowOf (neg (ix2 b k))) (rowOf (ctx (ix1 b)))

/-- `log σ(x)`. -/
def logSig (x : EReal) : EReal := Ideal.log (Ideal.logistic x)

/-- The summed log-likelihood: `∑ b, (log σ(pos b) + ∑ k, log σ(-(neg b k)))`. -/
def total (center ctx : SB.Idx → BitVec 32) (neg : SBK.Idx → BitVec 32) (ev eu : STab.Idx → EReal) : EReal :=
  ∑ b : Fin 16384, (logSig (posScore center ctx ev eu b) + ∑ k : Fin 5, logSig (-(negScore ctx neg eu b k)))

/-- The loss: minus the mean of the summed log-likelihood over the 16384 batch elements. -/
def loss (center ctx : SB.Idx → BitVec 32) (neg : SBK.Idx → BitVec 32) (ev eu : STab.Idx → EReal) : EReal :=
  -(Ideal.div (total center ctx neg ev eu) ((16384 : ℝ) : EReal))

end Cert.Spec

end
-- ==== Proof.Lanes.lean ====
/-
  Lane coordinates. A row of 64 entries is read as 4 groups of 16 lanes, a row of 128 entries as 8 groups of
  16 lanes: entry `16 * t + l` is lane `l` of group `t`. Summing over the lanes of every group enumerates the
  row; more generally a sum over an `m × n` grid, row-major, is the sum over its `m * n` cells.
-/
import Idealize.ShloMosaic.PureOps.Ideal
import Idealize.ShloMosaic.Lib.ValueIdx

open scoped BigOperators

namespace Cert.Lanes

/-- Lane `l` of group `t` in a row of 64 entries (4 groups of 16). -/
abbrev lane64 (t : Fin 4) (l : Fin 16) : Fin 64 := ⟨16 * t.val + l.val, by omega⟩

/-- Lane `l` of group `t` in a row of 128 entries (8 groups of 16). -/
abbrev lane128 (t : Fin 8) (l : Fin 16) : Fin 128 := ⟨16 * t.val + l.val, by omega⟩

/-- Cell `(a, b)` of an `m × n` grid has row-major position `a * n + b`, below `m * n`. -/
theorem grid_lt {m n a b : ℕ} (ha : a < m) (hb : b < n) : a * n + b < m * n :=
  calc a * n + b < a * n + n := by omega
    _ = (a + 1) * n := by ring
    _ ≤ m * n := Nat.mul_le_mul_right n ha

/-- A sum over the cells of an `m × n` grid, each cell named by its row-major position, is the sum over all
    `N = m * n` positions. -/
theorem sum_grid {M : Type*} [AddCommMonoid M] (m n N : ℕ) (h : m * n = N) (G : Fin N → M) :
    ∑ a : Fin m, ∑ b : Fin n, G ⟨a.val * n + b.val, h ▸ grid_lt a.isLt b.isLt⟩ = ∑ q : Fin N, G q := by
  subst h
  rw [← Equiv.sum_comp finProdFinEquiv G, Fintype.sum_prod_type]
  refine Finset.sum_congr rfl fun a _ => Finset.sum_congr rfl fun b _ => congrArg G (Fin.ext ?_)
  show a.val * n + b.val = b.val + n * a.val
  ring

/-- The 16 lanes of the 4 groups enumerate the 64 entries of a row. -/
theorem sum_lanes64 {M : Type*} [AddCommMonoid M] (f : Fin 64 → M) :
    ∑ l : Fin 16, ∑ t : Fin 4, f (lane64 t l) = ∑ d : Fin 64, f d := by
  rw [Finset.sum_comm, ← sum_grid 4 16 64 rfl f]
  refine Finset.sum_congr rfl fun t _ => Finset.sum_congr rfl fun l _ => congrArg f (Fin.ext ?_)
  show 16 * t.val + l.val = t.val * 16 + l.val
  omega

end Cert.Lanes
-- ==== Proof.GroupSums.lean ====
/-
  Summing groups of 16 lanes with a 0/1 matrix.

  The `128 × 8` matrix `m[c, t] = 1` if `c / 16 = t`, else `0`, is how a row of 128 entries is summed in 8 groups
  of 16 lanes: `∑ c, x c * m[c, t] = ∑ l, x (16 t + l)`. The matrix is built from two integer coordinate words by a
  floor division (a truncating division by 16 with a sign fix-up that never fires on a nonnegative coordinate) and
  an equality test; on the coordinates `c < 128`, `t < 8` that test is `c / 16 = t`. Also here: a sum over a
  reshaped array is the sum over the array, and the float word of `1.0`.
-/
import Idealize.ShloMosaic.PureOps.Ideal
import Idealize.ShloMosaic.PureOps.Ideal.Laws
import Idealize.ShloMosaic.Lib.ValueIdx
import Idealize.ShloMosaic.Lib.Decide
import proofs.«218857_g62938450756068_cont_9to1c4b_813_41_alg».proof.Proof.Lanes

noncomputable section

open scoped BigOperators

namespace Cert.GroupSums

open Idealize.ShloMosaic Idealize.ShloMosaic.ValueIdx Cert.Lanes

/-- The word `0x3F800000` is the float `1.0`. -/
theorem ofBits_one : Ideal.ofBits .f32 0x3F800000#32 = 1 := by
  simp [Ideal.ofBits, Ideal.ieee, -EReal.coe_mul]; norm_num

/-- The matrix entry's condition as a function of the row coordinate word `x` and the column coordinate word `y`:
    the floor of `x / 16` (the truncated quotient, less one where the signs of `x` and `16` differ and the
    remainder is not zero) equals `y`. -/
def selWord (x y : BitVec 32) : BitVec 1 :=
  IntOp.cmpi .eq
    (Scalar.select
      (IntOp.andi
        (IntOp.cmpi .ne
          (IntOp.subi ((IntOp.cmpi .sgt x 0#32).setWidth 32) ((IntOp.cmpi .slt x 0#32).setWidth 32))
          (Scalar.subi (Scalar.extui (Scalar.cmpi .sgt 16#32 0#32)) (Scalar.extui (Scalar.cmpi .slt 16#32 0#32))))
        (IntOp.cmpi .ne (IntOp.remsi .vector x 16#32) 0#32))
      (IntOp.subi (IntOp.divsi .vector x 16#32) 1#32)
      (IntOp.divsi .vector x 16#32))
    y

/-- On coordinates `c < 128`, `t < 8` the condition is `c / 16 = t`. -/
theorem selWord_eq : ∀ c : Fin 128, ∀ t : Fin 8,
    selWord (BitVec.ofNat 32 c.val) (BitVec.ofNat 32 t.val) = if c.val / 16 = t.val then 1#1 else 0#1 := by
  decide +kernel

/-- Summing a row of 128 entries against column `t` of the 0/1 matrix sums the 16 lanes of group `t`. -/
theorem sum_mul_sel (f : Fin 128 → EReal) (t : Fin 8) :
    ∑ c : Fin 128, f c * (if c.val / 16 = t.val then (1 : EReal) else 0) = ∑ l : Fin 16, f (lane128 t l) := by
  rw [← sum_grid 8 16 128 rfl (fun c : Fin 128 => f c * (if c.val / 16 = t.val then (1 : EReal) else 0))]
  have h : ∀ (a : Fin 8), (∑ b : Fin 16, f ⟨a.val * 16 + b.val, grid_lt a.isLt b.isLt⟩ *
      (if (a.val * 16 + b.val) / 16 = t.val then (1 : EReal) else 0)) =
      if a = t then ∑ l : Fin 16, f (lane128 a l) else 0 := by
    intro a
    have hq : ∀ b : Fin 16, (a.val * 16 + b.val) / 16 = a.val := fun b => by omega
    by_cases hat : a = t
    · rw [if_pos hat]
      refine Finset.sum_congr rfl fun b _ => ?_
      rw [hq b, if_pos (congrArg Fin.val hat), mul_one]
      exact congrArg f (Fin.ext (by show a.val * 16 + b.val = 16 * a.val + b.val; omega))
    · rw [if_neg hat]
      refine Finset.sum_eq_zero fun b _ => ?_
      rw [hq b, if_neg (fun h => hat (Fin.ext h)), mul_zero]
  rw [Finset.sum_congr rfl (fun a _ => h a), Finset.sum_ite_eq' Finset.univ t, if_pos (Finset.mem_univ t)]

/-- A sum over a reshaped array is the sum over the array: a reshape is a bijection of the index sets. -/
theorem sum_shapeCast {s t : Shape} (x : s.Idx → EReal) (h : s.ShapeCasts t) :
    ∑ j : t.Idx, shapeCast t x h j = ∑ k : s.Idx, x k :=
  Equiv.sum_comp (Shape.reshapeEquiv h) x

end Cert.GroupSums

end
-- ==== Proof.LossBody.lean ====
/-
  The value the TensorCore body stores.

  The body loads two matrices `pn : [10240, 128]` and `pp : [2048, 128]`, multiplies each by the `128 × 8` matrix
  `m[c, t] = 1` if `c / 16 = t` else `0` (into a zero accumulator), so that entry `(r, t)` of each product is the sum
  of the 16 lanes of group `t` of row `r`; applies the logistic function and then the logarithm entry by entry;
  sums every entry of each result; adds the two sums and multiplies by the float word `0xB8800000`.
  At the extended reals every one of these steps is exact, so the stored scalar is
  `((∑ r t, log σ(∑ l, pn[r, 16t + l])) + (∑ r t, log σ(∑ l, pp[r, 16t + l]))) * 0xB8800000`.
-/
import proofs.«218857_g62938450756068_cont_9to1c4b_813_41_alg».proof.Proof.Gen.KernelIdeal.Skeleton
import proofs.«218857_g62938450756068_cont_9to1c4b_813_41_alg».proof.Proof.Spec
import proofs.«218857_g62938450756068_cont_9to1c4b_813_41_alg».proof.Proof.Lanes
import proofs.«218857_g62938450756068_cont_9to1c4b_813_41_alg».proof.Proof.GroupSums
import Idealize.ShloMosaic.Lib.ValueLayout

noncomputable section

open scoped BigOperators

namespace Cert.KernelIdeal.LossBody

open Idealize.ShloMosaic Idealize.ShloMosaic.ValueIdx Cert.KernelIdeal.Gen Cert.Lanes Cert.GroupSums

/-! ## The 0/1 matrix -/

/-- Entry `(c, t)` of the matrix is `1` if `c / 16 = t`, else `0`. -/
theorem sel_apply (c : Fin 128) (t : Fin 8) :
    k2_pay2 (F := Ideal) (ix2 c t) = if c.val / 16 = t.val then (1 : EReal) else 0 := by
  have h : k2_pay2 (F := Ideal) (ix2 c t) =
      Scalar.select
        (selWord (iota .tc S128x8 32 [0] iota_S128x8_d0_w32 (ix2 c t)) (iota .tc S128x8 32 [1] iota_S128x8_d1_w32 (ix2 c t)))
        (Ideal.ofBits .f32 0x3F800000#32) (Ideal.ofBits .f32 0x00000000#32) := rfl
  rw [h, iota_single_apply, iota_single_apply]
  show Scalar.select (selWord (BitVec.ofNat 32 c.val) (BitVec.ofNat 32 t.val)) _ _ = _
  rw [selWord_eq c t, ofBits_one, Ideal.ofBits_zero_f32]
  by_cases hq : c.val / 16 = t.val
  · rw [if_pos hq, if_pos hq]; exact select_one _ _
  · rw [if_neg hq, if_neg hq]; exact select_zero _ _

/-! ## The two products: the operand indices of each contraction -/

theorem lhsN_0 (i : S10240x8.Idx) (q : dot_S10240x128_S128x8_S10240x8_1_0_0_1_n_n.contr.Idx) :
    (dot_S10240x128_S128x8_S10240x8_1_0_0_1_n_n.lhsIdx i q 0).val = (i 0).val := by
  unfold DotDims.lhsIdx
  rw [dif_neg (show ¬(0 : Fin S10240x128.rank) ∈ dot_S10240x128_S128x8_S10240x8_1_0_0_1_n_n.lhsBatch by decide),
    dif_pos (show (0 : Fin S10240x128.rank) ∈ dot_S10240x128_S128x8_S10240x8_1_0_0_1_n_n.lhsNonContracting by decide)]
  rfl
theorem lhsN_1 (i : S10240x8.Idx) (q : dot_S10240x128_S128x8_S10240x8_1_0_0_1_n_n.contr.Idx) :
    (dot_S10240x128_S128x8_S10240x8_1_0_0_1_n_n.lhsIdx i q 1).val = (q ⟨0, by decide⟩).val :=
  dot_S10240x128_S128x8_S10240x8_1_0_0_1_n_n.lhsIdx_val_of_single rfl i q
theorem rhsN_0 (i : S10240x8.Idx) (q : dot_S10240x128_S128x8_S10240x8_1_0_0_1_n_n.contr.Idx) :
    (dot_S10240x128_S128x8_S10240x8_1_0_0_1_n_n.rhsIdx i q 0).val = (q ⟨0, by decide⟩).val :=
  dot_S10240x128_S128x8_S10240x8_1_0_0_1_n_n.rhsIdx_val_of_single rfl i q
theorem rhsN_1 (i : S10240x8.Idx) (q : dot_S10240x128_S128x8_S10240x8_1_0_0_1_n_n.contr.Idx) :
    (dot_S10240x128_S128x8_S10240x8_1_0_0_1_n_n.rhsIdx i q 1).val = (i 1).val := by
  unfold DotDims.rhsIdx
  rw [dif_neg (show ¬(1 : Fin S128x8.rank) ∈ dot_S10240x128_S128x8_S10240x8_1_0_0_1_n_n.rhsBatch by decide),
    dif_pos (show (1 : Fin S128x8.rank) ∈ dot_S10240x128_S128x8_S10240x8_1_0_0_1_n_n.rhsNonContracting by decide)]
  rfl

theorem lhsP_0 (i : S2048x8.Idx) (q : dot_S2048x128_S128x8_S2048x8_1_0_0_1_n_n.contr.Idx) :
    (dot_S2048x128_S128x8_S2048x8_1_0_0_1_n_n.lhsIdx i q 0).val = (i 0).val := by
  unfold DotDims.lhsIdx
  rw [dif_neg (show ¬(0 : Fin S2048x128.rank) ∈ dot_S2048x128_S128x8_S2048x8_1_0_0_1_n_n.lhsBatch by decide),
    dif_pos (show (0 : Fin S2048x128.rank) ∈ dot_S2048x128_S128x8_S2048x8_1_0_0_1_n_n.lhsNonContracting by decide)]
  rfl
theorem lhsP_1 (i : S2048x8.Idx) (q : dot_S2048x128_S128x8_S2048x8_1_0_0_1_n_n.contr.Idx) :
    (dot_S2048x128_S128x8_S2048x8_1_0_0_1_n_n.lhsIdx i q 1).val = (q ⟨0, by decide⟩).val :=
  dot_S2048x128_S128x8_S2048x8_1_0_0_1_n_n.lhsIdx_val_of_single rfl i q
theorem rhsP_0 (i : S2048x8.Idx) (q : dot_S2048x128_S128x8_S2048x8_1_0_0_1_n_n.contr.Idx) :
    (dot_S2048x128_S128x8_S2048x8_1_0_0_1_n_n.rhsIdx i q 0).val = (q ⟨0, by decide⟩).val :=
  dot_S2048x128_S128x8_S2048x8_1_0_0_1_n_n.rhsIdx_val_of_single rfl i q
theorem rhsP_1 (i : S2048x8.Idx) (q : dot_S2048x128_S128x8_S2048x8_1_0_0_1_n_n.contr.Idx) :
    (dot_S2048x128_S128x8_S2048x8_1_0_0_1_n_n.rhsIdx i q 1).val = (i 1).val := by
  unfold DotDims.rhsIdx
  rw [dif_neg (show ¬(1 : Fin S128x8.rank) ∈ dot_S2048x128_S128x8_S2048x8_1_0_0_1_n_n.rhsBatch by decide),
    dif_pos (show (1 : Fin S128x8.rank) ∈ dot_S2048x128_S128x8_S2048x8_1_0_0_1_n_n.rhsNonContracting by decide)]
  rfl

/-- Entry `(r, t)` of the product of a `10240 × 128` matrix with the 0/1 matrix, into a zero accumulator, is the
    sum of the 16 lanes of group `t` of row `r`. -/
theorem group_sumN (x : FVec Ideal S10240x128 .f32) (r : Fin 10240) (t : Fin 8) :
    matmul dot_S10240x128_S128x8_S10240x8_1_0_0_1_n_n none x (k2_pay2 (F := Ideal))
        (constant (F := Ideal) S10240x8 .f32 0x00000000#32) (ix2 r t)
      = ∑ l : Fin 16, x (ix2 r (lane128 t l)) := by
  refine (Ideal.matmul_constant_zero_apply dot_S10240x128_S128x8_S10240x8_1_0_0_1_n_n none x (k2_pay2 (F := Ideal))
    (ix2 r t)).trans ?_
  rw [← Equiv.sum_comp (contrEquiv1 dot_S10240x128_S128x8_S10240x8_1_0_0_1_n_n 128 rfl rfl).symm]
  refine Eq.trans (Finset.sum_congr rfl fun c _ => ?_) (sum_mul_sel (fun c => x (ix2 r c)) t)
  have hk := contrEquiv1_symm_val dot_S10240x128_S128x8_S10240x8_1_0_0_1_n_n 128 rfl rfl c
  have el : dot_S10240x128_S128x8_S10240x8_1_0_0_1_n_n.lhsIdx (ix2 r t)
      ((contrEquiv1 dot_S10240x128_S128x8_S10240x8_1_0_0_1_n_n 128 rfl rfl).symm c) = ix2 r c :=
    funext fun a => Fin.ext (by
      match a with
      | ⟨0, _⟩ => exact lhsN_0 _ _
      | ⟨1, _⟩ => exact (lhsN_1 _ _).trans hk)
  have er : dot_S10240x128_S128x8_S10240x8_1_0_0_1_n_n.rhsIdx (ix2 r t)
      ((contrEquiv1 dot_S10240x128_S128x8_S10240x8_1_0_0_1_n_n 128 rfl rfl).symm c) = ix2 c t :=
    funext fun a => Fin.ext (by
      match a with
      | ⟨0, _⟩ => exact (rhsN_0 _ _).trans hk
      | ⟨1, _⟩ => exact rhsN_1 _ _)
  rw [el, er, sel_apply]

/-- The same for a `2048 × 128` matrix. -/
theorem group_sumP (x : FVec Ideal S2048x128 .f32) (r : Fin 2048) (t : Fin 8) :
    matmul dot_S2048x128_S128x8_S2048x8_1_0_0_1_n_n none x (k2_pay2 (F := Ideal))
        (constant (F := Ideal) S2048x8 .f32 0x00000000#32) (ix2 r t)
      = ∑ l : Fin 16, x (ix2 r (lane128 t l)) := by
  refine (Ideal.matmul_constant_zero_apply dot_S2048x128_S128x8_S2048x8_1_0_0_1_n_n none x (k2_pay2 (F := Ideal))
    (ix2 r t)).trans ?_
  rw [← Equiv.sum_comp (contrEquiv1 dot_S2048x128_S128x8_S2048x8_1_0_0_1_n_n 128 rfl rfl).symm]
  refine Eq.trans (Finset.sum_congr rfl fun c _ => ?_) (sum_mul_sel (fun c => x (ix2 r c)) t)
  have hk := contrEquiv1_symm_val dot_S2048x128_S128x8_S2048x8_1_0_0_1_n_n 128 rfl rfl c
  have el : dot_S2048x128_S128x8_S2048x8_1_0_0_1_n_n.lhsIdx (ix2 r t)
      ((contrEquiv1 dot_S2048x128_S128x8_S2048x8_1_0_0_1_n_n 128 rfl rfl).symm c) = ix2 r c :=
    funext fun a => Fin.ext (by
      match a with
      | ⟨0, _⟩ => exact lhsP_0 _ _
      | ⟨1, _⟩ => exact (lhsP_1 _ _).trans hk)
  have er : dot_S2048x128_S128x8_S2048x8_1_0_0_1_n_n.rhsIdx (ix2 r t)
      ((contrEquiv1 dot_S2048x128_S128x8_S2048x8_1_0_0_1_n_n 128 rfl rfl).symm c) = ix2 c t :=
    funext fun a => Fin.ext (by
      match a with
      | ⟨0, _⟩ => exact (rhsP_0 _ _).trans hk
      | ⟨1, _⟩ => exact rhsP_1 _ _)
  rw [el, er, sel_apply]

/-! ## The two total sums -/

/-- The sum over every axis of a `10240 × 8` array, taken as the body takes it (a leading unit axis added, the two
    other axes reduced, the one entry extracted), is the double sum over its coordinates. -/
theorem totalN (v : FVec Ideal S10240x8 .f32) (h1 : S10240x8.ShapeCasts S1x10240x8)
    (hr : S1x10240x8.Reduces [1, 2] S1) (hφ : FKind.Formats .f32)
    (hacc : (0x00000000#32 : BitVec 32) = FKind.add.neutral .f32 hφ) (h2 : S1.ShapeCasts S1x1x1)
    (hp : ∀ a, (![0, 0, 0] : Fin 3 → Nat) a < S1x1x1.size a) :
    extractAt ![0, 0, 0]
        (shapeCast S1x1x1 (multiReduction .add [1, 2] S1 (shapeCast S1x10240x8 v h1) 0x00000000#32 hr hφ hacc) h2) hp
      = ∑ r : Fin 10240, ∑ t : Fin 8, v (ix2 r t) := by
  show multiReduction .add [1, 2] S1 (shapeCast S1x10240x8 v h1) 0x00000000#32 hr hφ hacc (Shape.reshapeEquiv h2 _) = _
  refine (Ideal.multiReduction_add_total (shapeCast S1x10240x8 v h1) 0x00000000#32 hr (by decide) hφ hacc _).trans ?_
  rw [sum_shapeCast, sum_idx2]

/-- The same for a `2048 × 8` array. -/
theorem totalP (v : FVec Ideal S2048x8 .f32) (h1 : S2048x8.ShapeCasts S1x2048x8)
    (hr : S1x2048x8.Reduces [1, 2] S1) (hφ : FKind.Formats .f32)
    (hacc : (0x00000000#32 : BitVec 32) = FKind.add.neutral .f32 hφ) (h2 : S1.ShapeCasts S1x1x1)
    (hp : ∀ a, (![0, 0, 0] : Fin 3 → Nat) a < S1x1x1.size a) :
    extractAt ![0, 0, 0]
        (shapeCast S1x1x1 (multiReduction .add [1, 2] S1 (shapeCast S1x2048x8 v h1) 0x00000000#32 hr hφ hacc) h2) hp
      = ∑ r : Fin 2048, ∑ t : Fin 8, v (ix2 r t) := by
  show multiReduction .add [1, 2] S1 (shapeCast S1x2048x8 v h1) 0x00000000#32 hr hφ hacc (Shape.reshapeEquiv h2 _) = _
  refine (Ideal.multiReduction_add_total (shapeCast S1x2048x8 v h1) 0x00000000#32 hr (by decide) hφ hacc _).trans ?_
  rw [sum_shapeCast, sum_idx2]

/-! ## The payloads -/

/-- The first total: the sum over rows and groups of `log σ` of each group's lane sum. -/
theorem pay3_eq (pn : Vec Ideal S10240x128 .f32) :
    k2_pay3 (F := Ideal) pn
      = ∑ r : Fin 10240, ∑ t : Fin 8, Cert.Spec.logSig (∑ l : Fin 16, pn (ix2 r (lane128 t l))) := by
  unfold k2_pay3
  refine (totalN _ _ _ _ _ _ _).trans ?_
  refine Finset.sum_congr rfl fun r _ => Finset.sum_congr rfl fun t _ => ?_
  show Ideal.log (Ideal.logistic (matmul dot_S10240x128_S128x8_S10240x8_1_0_0_1_n_n none
    (shapeCast S10240x128 pn shapeCasts_S10240x128_S10240x128) (k2_pay2 (F := Ideal))
    (constant (F := Ideal) S10240x8 .f32 0x00000000#32) (ix2 r t))) = _
  rw [shapeCast_self, group_sumN]
  rfl

/-- Entry `(r, t)` of the second array of logarithms. -/
theorem pay4_apply (pp : Vec Ideal S2048x128 .f32) (r : Fin 2048) (t : Fin 8) :
    k2_pay4 (F := Ideal) pp (ix2 r t) = Cert.Spec.logSig (∑ l : Fin 16, pp (ix2 r (lane128 t l))) := by
  show Ideal.log (Ideal.logistic (matmul dot_S2048x128_S128x8_S2048x8_1_0_0_1_n_n none
    (shapeCast S2048x128 pp shapeCasts_S2048x128_S2048x128) (k2_pay2 (F := Ideal))
    (constant (F := Ideal) S2048x8 .f32 0x00000000#32) (ix2 r t))) = _
  rw [shapeCast_self, group_sumP]
  rfl

/-- The stored scalar from the first total `a` and the second array `v`. -/
theorem pay1_eq (a : Ideal .f32) (v : FVec Ideal S2048x8 .f32) :
    k2_pay1 (F := Ideal) a v
      = (a + ∑ r : Fin 2048, ∑ t : Fin 8, v (ix2 r t)) * Ideal.ofBits .f32 0xB8800000#32 := by
  unfold k2_pay1
  show (a + extractAt ![0, 0, 0] (shapeCast S1x1x1 (multiReduction .add [1, 2] S1
    (shapeCast S1x2048x8 v shapeCasts_S2048x8_S1x2048x8) 0x00000000#32 reduces_S1x2048x8_S1 (.inl rfl) rfl)
    shapeCasts_S1_S1x1x1) inpos_S1x1x1_p0_0_0) * Ideal.ofBits .f32 0xB8800000#32 = _
  exact congrArg (fun s => (a + s) * Ideal.ofBits .f32 0xB8800000#32) (totalP v _ _ _ _ _ _)

/-- THE BODY'S VALUE: the scalar the TensorCore body stores, as a closed formula in the two loaded matrices. -/
theorem stored_value (pn : Vec Ideal S10240x128 .f32) (pp : Vec Ideal S2048x128 .f32) :
    k2_pay1 (F := Ideal) (k2_pay3 pn) (k2_pay4 pp)
      = ((∑ r : Fin 10240, ∑ t : Fin 8, Cert.Spec.logSig (∑ l : Fin 16, pn (ix2 r (lane128 t l)))) +
         (∑ r : Fin 2048, ∑ t : Fin 8, Cert.Spec.logSig (∑ l : Fin 16, pp (ix2 r (lane128 t l)))))
        * Ideal.ofBits .f32 0xB8800000#32 := by
  rw [pay1_eq, pay3_eq]
  refine congrArg (fun s => (_ + s) * Ideal.ofBits .f32 0xB8800000#32) ?_
  exact Finset.sum_congr rfl fun r _ => Finset.sum_congr rfl fun t _ => pay4_apply pp r t

end Cert.KernelIdeal.LossBody

end
-- ==== Proof.RealSums.lean ====
/-
  Finite sums of real numbers inside the extended reals. A product of two reals is a real, a finite sum of reals
  is a real, and a negation moves across a finite sum of reals (on the extended reals it does not in general:
  `-(⊤ + ⊥) = ⊤` while `-⊤ + -⊥ = ⊥`).
-/
import Idealize.ShloMosaic.PureOps.Ideal

open scoped BigOperators

namespace Cert.RealSums

/-- A product of two reals is a real. -/
theorem mul_isReal {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A finite sum of reals is a real. -/
theorem sum_isReal {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨x, hx⟩ := hf a (Finset.mem_insert_self a s)
    obtain ⟨y, hy⟩ := ih (fun i hi => hf i (Finset.mem_insert_of_mem hi))
    exact ⟨x + y, by rw [Finset.sum_insert ha, hx, hy, EReal.coe_add]⟩

/-- The negation moves across a finite sum of reals. -/
theorem sum_neg_of_isReal {ι : Type*} (s : Finset ι) (f : ι → EReal) (hf : ∀ i ∈ s, ∃ r : ℝ, f i = (r : EReal)) :
    ∑ i ∈ s, -(f i) = -(∑ i ∈ s, f i) := by
  classical
  induction s using Finset.induction_on with
  | empty => simp
  | insert a s ha ih =>
    obtain ⟨x, hx⟩ := hf a (Finset.mem_insert_self a s)
    rw [Finset.sum_insert ha, Finset.sum_insert ha, ih (fun i hi => hf i (Finset.mem_insert_of_mem hi)), hx,
      EReal.neg_add (Or.inl (EReal.coe_ne_bot x)) (Or.inl (EReal.coe_ne_top x)), sub_eq_add_neg]

end Cert.RealSums
-- ==== Proof.Scale.lean ====
/-
  The mean's scale. The word `0xB8800000` is the float `-2^(-14) = -(1/16384)`, so a product with it is minus
  the quotient by `16384`; this holds at every extended real, the infinities included, because the negation
  commutes with a product there and a quotient by a nonzero real is the product with its reciprocal.
-/
import Idealize.ShloMosaic.PureOps.Ideal

noncomputable section

namespace Cert.Scale

open Idealize.ShloMosaic

/-- The word `0xB8800000` denotes `-(1/16384)`. -/
theorem ofBits_neg_inv_16384 : Ideal.ofBits .f32 0xB8800000#32 = -(((1 / 16384 : ℝ) : ℝ) : EReal) := by
  rw [← EReal.coe_neg]
  simp [Ideal.ofBits, Ideal.ieee, -EReal.coe_mul, -EReal.coe_neg]; norm_num

/-- A product with `-(1/16384)` is minus the quotient by `16384`. -/
theorem mul_scale (x : EReal) :
    x * Ideal.ofBits .f32 0xB8800000#32 = -(Ideal.div x ((16384 : ℝ) : EReal)) := by
  rw [ofBits_neg_inv_16384, mul_neg, Ideal.div_coe (by norm_num : (16384 : ℝ) ≠ 0)]

end Cert.Scale

end
-- ==== Proof.Bridge.lean ====
/-
  The kernel-side closed form is the specification.

  The kernel-side closed form reads two flat arrays of lane partial products. For batch element `b`, negative
  sample `k` and lane `l`, position `(b*5 + k)*16 + l` of the first holds minus the sum over the 4 groups of
  `eu[neg b k][16t + l] * eu[ctx b][16t + l]`; position `b*16 + l` of the second holds the sum over the 4 groups
  of `ev[center b][16t + l] * eu[ctx b][16t + l]`. Both are read row-major as matrices with rows of 128 = 8 groups
  of 16 lanes; each group of 16 lanes is summed, `log σ` is applied, everything is summed and multiplied by
  `-(1/16384)`.

  Group `t` of row `r` is flat group `q = r*8 + t`; for the first array `q = b*5 + k` (10240*8 = 81920 =
  16384*5), for the second `q = b` (2048*8 = 16384). The 16 lanes × 4 groups of a pair of rows enumerate the 64
  products of the rows' inner product. The negation in the first array moves across the sum over the lanes
  because the tables hold reals. The two big sums are then the two halves of the summed log-likelihood, and the
  product with `-(1/16384)` is minus the quotient by 16384.
-/
import proofs.«218857_g62938450756068_cont_9to1c4b_813_41_alg».proof.Proof.Spec
import proofs.«218857_g62938450756068_cont_9to1c4b_813_41_alg».proof.Proof.Lanes
import proofs.«218857_g62938450756068_cont_9to1c4b_813_41_alg».proof.Proof.RealSums
import proofs.«218857_g62938450756068_cont_9to1c4b_813_41_alg».proof.Proof.Scale

noncomputable section

open scoped BigOperators

namespace Cert.Bridge

open Idealize.ShloMosaic Idealize.ShloMosaic.ValueIdx Cert.Spec Cert.Lanes Cert.RealSums

/-- The 16 lane partial products of a pair of rows add up to the rows' inner product. -/
theorem sum_lane_products (A B : STab.Idx → EReal) (i j : Fin 1000000) :
    ∑ l : Fin 16, ∑ t : Fin 4, A (ix2 i (lane64 t l)) * B (ix2 j (lane64 t l)) = dot A B i j :=
  sum_lanes64 (fun d => A (ix2 i d) * B (ix2 j d))

/-- With tables of reals, the 16 negated lane partial products add up to minus the inner product. -/
theorem sum_neg_lane_products (A B : STab.Idx → EReal) (hA : ∀ i, ∃ r : ℝ, A i = (r : EReal))
    (hB : ∀ i, ∃ r : ℝ, B i = (r : EReal)) (i j : Fin 1000000) :
    ∑ l : Fin 16, -(∑ t : Fin 4, A (ix2 i (lane64 t l)) * B (ix2 j (lane64 t l))) = -(dot A B i j) := by
  rw [sum_neg_of_isReal Finset.univ _ (fun l _ => sum_isReal _ _ (fun t _ => mul_isReal (hA _) (hB _))),
    sum_lane_products]

/-- `log σ` of the sum of the 16 lanes of flat group `q` of the negative partial products. -/
def negGroup (pneg : (⟨1, ![1310720]⟩ : Shape).Idx → EReal) (q : Fin 81920) : EReal :=
  logSig (∑ l : Fin 16, pneg (ix1 ⟨q.val * 16 + l.val, by omega⟩))

/-- `log σ` of the sum of the 16 lanes of flat group `q` of the positive partial products. -/
def posGroup (ppos : (⟨1, ![262144]⟩ : Shape).Idx → EReal) (q : Fin 16384) : EReal :=
  logSig (∑ l : Fin 16, ppos (ix1 ⟨q.val * 16 + l.val, by omega⟩))

/-- The negative half: the groups of the `10240 × 128` matrix are the `16384 × 5` negative scores, negated. -/
theorem neg_half (ctx : SB.Idx → BitVec 32) (neg : SBK.Idx → BitVec 32) (eu : STab.Idx → EReal)
    (pneg : (⟨1, ![1310720]⟩ : Shape).Idx → EReal) (pn : (⟨2, ![10240, 128]⟩ : Shape).Idx → EReal)
    (heu : ∀ i, ∃ r : ℝ, eu i = (r : EReal))
    (hneg : ∀ (b : Fin 16384) (k : Fin 5) (l : Fin 16) (h : (b.val * 5 + k.val) * 16 + l.val < 1310720),
        pneg (ix1 ⟨(b.val * 5 + k.val) * 16 + l.val, h⟩) =
          -(∑ t : Fin 4, eu (ix2 (rowOf (neg (ix2 b k))) (lane64 t l)) * eu (ix2 (rowOf (ctx (ix1 b))) (lane64 t l))))
    (hpn : ∀ (r : Fin 10240) (c : Fin 128) (h : r.val * 128 + c.val < 1310720),
        pn (ix2 r c) = pneg (ix1 ⟨r.val * 128 + c.val, h⟩)) :
    ∑ r : Fin 10240, ∑ t : Fin 8, logSig (∑ l : Fin 16, pn (ix2 r (lane128 t l))) =
      ∑ b : Fin 16384, ∑ k : Fin 5, logSig (-(negScore ctx neg eu b k)) := by
  have h1 : ∀ (r : Fin 10240) (t : Fin 8), logSig (∑ l : Fin 16, pn (ix2 r (lane128 t l))) =
      negGroup pneg ⟨r.val * 8 + t.val, grid_lt r.isLt t.isLt⟩ := by
    intro r t
    refine congrArg logSig (Finset.sum_congr rfl fun l _ => ?_)
    rw [hpn r (lane128 t l) (by show r.val * 128 + (16 * t.val + l.val) < 1310720; omega)]
    exact congrArg (fun a => pneg (ix1 a))
      (Fin.ext (by show r.val * 128 + (16 * t.val + l.val) = (r.val * 8 + t.val) * 16 + l.val; omega))
  have h2 : ∀ (b : Fin 16384) (k : Fin 5),
      negGroup pneg ⟨b.val * 5 + k.val, grid_lt b.isLt k.isLt⟩ = logSig (-(negScore ctx neg eu b k)) := by
    intro b k
    refine congrArg logSig ?_
    rw [Finset.sum_congr rfl (fun l _ => hneg b k l _)]
    exact sum_neg_lane_products eu eu heu heu _ _
  calc ∑ r : Fin 10240, ∑ t : Fin 8, logSig (∑ l : Fin 16, pn (ix2 r (lane128 t l)))
      = ∑ r : Fin 10240, ∑ t : Fin 8, negGroup pneg ⟨r.val * 8 + t.val, grid_lt r.isLt t.isLt⟩ :=
        Finset.sum_congr rfl fun r _ => Finset.sum_congr rfl fun t _ => h1 r t
    _ = ∑ q : Fin 81920, negGroup pneg q := sum_grid 10240 8 81920 rfl (negGroup pneg)
    _ = ∑ b : Fin 16384, ∑ k : Fin 5, negGroup pneg ⟨b.val * 5 + k.val, grid_lt b.isLt k.isLt⟩ :=
        (sum_grid 16384 5 81920 rfl (negGroup pneg)).symm
    _ = ∑ b : Fin 16384, ∑ k : Fin 5, logSig (-(negScore ctx neg eu b k)) :=
        Finset.sum_congr rfl fun b _ => Finset.sum_congr rfl fun k _ => h2 b k

/-- The positive half: the groups of the `2048 × 128` matrix are the 16384 positive scores. -/
theorem pos_half (center ctx : SB.Idx → BitVec 32) (ev eu : STab.Idx → EReal)
    (ppos : (⟨1, ![262144]⟩ : Shape).Idx → EReal) (pp : (⟨2, ![2048, 128]⟩ : Shape).Idx → EReal)
    (hpos : ∀ (b : Fin 16384) (l : Fin 16) (h : b.val * 16 + l.val < 262144),
        ppos (ix1 ⟨b.val * 16 + l.val, h⟩) =
          ∑ t : Fin 4, ev (ix2 (rowOf (center (ix1 b))) (lane64 t l)) * eu (ix2 (rowOf (ctx (ix1 b))) (lane64 t l)))
    (hpp : ∀ (r : Fin 2048) (c : Fin 128) (h : r.val * 128 + c.val < 262144),
        pp (ix2 r c) = ppos (ix1 ⟨r.val * 128 + c.val, h⟩)) :
    ∑ r : Fin 2048, ∑ t : Fin 8, logSig (∑ l : Fin 16, pp (ix2 r (lane128 t l))) =
      ∑ b : Fin 16384, logSig (posScore center ctx ev eu b) := by
  have h1 : ∀ (r : Fin 2048) (t : Fin 8), logSig (∑ l : Fin 16, pp (ix2 r (lane128 t l))) =
      posGroup ppos ⟨r.val * 8 + t.val, grid_lt r.isLt t.isLt⟩ := by
    intro r t
    refine congrArg logSig (Finset.sum_congr rfl fun l _ => ?_)
    rw [hpp r (lane128 t l) (by show r.val * 128 + (16 * t.val + l.val) < 262144; omega)]
    exact congrArg (fun a => ppos (ix1 a))
      (Fin.ext (by show r.val * 128 + (16 * t.val + l.val) = (r.val * 8 + t.val) * 16 + l.val; omega))
  have h2 : ∀ b : Fin 16384, posGroup ppos b = logSig (posScore center ctx ev eu b) := by
    intro b
    refine congrArg logSig ?_
    rw [Finset.sum_congr rfl (fun l _ => hpos b l _)]
    exact sum_lane_products ev eu _ _
  calc ∑ r : Fin 2048, ∑ t : Fin 8, logSig (∑ l : Fin 16, pp (ix2 r (lane128 t l)))
      = ∑ r : Fin 2048, ∑ t : Fin 8, posGroup ppos ⟨r.val * 8 + t.val, grid_lt r.isLt t.isLt⟩ :=
        Finset.sum_congr rfl fun r _ => Finset.sum_congr rfl fun t _ => h1 r t
    _ = ∑ q : Fin 16384, posGroup ppos q := sum_grid 2048 8 16384 rfl (posGroup ppos)
    _ = ∑ b : Fin 16384, logSig (posScore center ctx ev eu b) := Finset.sum_congr rfl fun b _ => h2 b

/-- THE BRIDGE: the kernel-side closed form, at partial products given by the two lane formulas and read
    row-major with rows of 128, is the specification's loss. -/
theorem kernel_closed_form_eq_loss
    (center ctx : SB.Idx → BitVec 32) (neg : SBK.Idx → BitVec 32) (ev eu : STab.Idx → EReal)
    (pneg : (⟨1, ![1310720]⟩ : Shape).Idx → EReal) (ppos : (⟨1, ![262144]⟩ : Shape).Idx → EReal)
    (pn : (⟨2, ![10240, 128]⟩ : Shape).Idx → EReal) (pp : (⟨2, ![2048, 128]⟩ : Shape).Idx → EReal)
    (hev : ∀ i, ∃ r : ℝ, ev i = (r : EReal)) (heu : ∀ i, ∃ r : ℝ, eu i = (r : EReal))
    (hneg : ∀ (b : Fin 16384) (k : Fin 5) (l : Fin 16) (h : (b.val * 5 + k.val) * 16 + l.val < 1310720),
        pneg (ix1 ⟨(b.val * 5 + k.val) * 16 + l.val, h⟩) =
          -(∑ t : Fin 4, eu (ix2 (rowOf (neg (ix2 b k))) (lane64 t l)) * eu (ix2 (rowOf (ctx (ix1 b))) (lane64 t l))))
    (hpos : ∀ (b : Fin 16384) (l : Fin 16) (h : b.val * 16 + l.val < 262144),
        ppos (ix1 ⟨b.val * 16 + l.val, h⟩) =
          ∑ t : Fin 4, ev (ix2 (rowOf (center (ix1 b))) (lane64 t l)) * eu (ix2 (rowOf (ctx (ix1 b))) (lane64 t l)))
    (hpn : ∀ (r : Fin 10240) (c : Fin 128) (h : r.val * 128 + c.val < 1310720),
        pn (ix2 r c) = pneg (ix1 ⟨r.val * 128 + c.val, h⟩))
    (hpp : ∀ (r : Fin 2048) (c : Fin 128) (h : r.val * 128 + c.val < 262144),
        pp (ix2 r c) = ppos (ix1 ⟨r.val * 128 + c.val, h⟩)) :
    ((∑ r : Fin 10240, ∑ t : Fin 8, logSig (∑ l : Fin 16, pn (ix2 r (lane128 t l)))) +
     (∑ r : Fin 2048, ∑ t : Fin 8, logSig (∑ l : Fin 16, pp (ix2 r (lane128 t l))))) * Ideal.ofBits .f32 0xB8800000#32
    = loss center ctx neg ev eu := by
  have _ := hev
  have hsum : (∑ b : Fin 16384, ∑ k : Fin 5, logSig (-(negScore ctx neg eu b k))) +
      (∑ b : Fin 16384, logSig (posScore center ctx ev eu b)) = total center ctx neg ev eu := by
    unfold total
    rw [Finset.sum_add_distrib, add_comm]
  rw [neg_half ctx neg eu pneg pn heu hneg hpn, pos_half center ctx ev eu ppos pp hpos hpp, hsum, Scale.mul_scale]
  rfl

end Cert.Bridge

end
-- ==== Proof.LossValue.lean ====
/-
  The scalar the TensorCore body stores is the specification's loss: the body's closed form (the sum over rows and
  groups of `log σ` of each group's lane sum, for both loaded matrices, times `-(1/16384)`) joined with the
  re-indexing of the lane partial products onto the batch elements and their negative samples.
-/
import proofs.«218857_g62938450756068_cont_9to1c4b_813_41_alg».proof.Proof.LossBody
import proofs.«218857_g62938450756068_cont_9to1c4b_813_41_alg».proof.Proof.Bridge

noncomputable section

open scoped BigOperators

namespace Cert.KernelIdeal.LossBody

open Idealize.ShloMosaic Idealize.ShloMosaic.ValueIdx Cert.KernelIdeal.Gen Cert.Lanes

/-- The stored scalar is the specification's loss, when the two loaded matrices are the row-major reading of lane
    partial products given by the two lane formulas over tables of reals. -/
theorem stored_value_eq_loss
    (center ctx : Cert.Spec.SB.Idx → BitVec 32) (neg : Cert.Spec.SBK.Idx → BitVec 32) (ev eu : Cert.Spec.STab.Idx → EReal)
    (pneg : (⟨1, ![1310720]⟩ : Shape).Idx → EReal) (ppos : (⟨1, ![262144]⟩ : Shape).Idx → EReal)
    (pn : Vec Ideal S10240x128 .f32) (pp : Vec Ideal S2048x128 .f32)
    (hev : ∀ i, ∃ r : ℝ, ev i = (r : EReal)) (heu : ∀ i, ∃ r : ℝ, eu i = (r : EReal))
    (hneg : ∀ (b : Fin 16384) (k : Fin 5) (l : Fin 16) (h : (b.val * 5 + k.val) * 16 + l.val < 1310720),
        pneg (ix1 ⟨(b.val * 5 + k.val) * 16 + l.val, h⟩) =
          -(∑ t : Fin 4, eu (ix2 (Cert.Spec.rowOf (neg (ix2 b k))) (lane64 t l)) *
              eu (ix2 (Cert.Spec.rowOf (ctx (ix1 b))) (lane64 t l))))
    (hpos : ∀ (b : Fin 16384) (l : Fin 16) (h : b.val * 16 + l.val < 262144),
        ppos (ix1 ⟨b.val * 16 + l.val, h⟩) =
          ∑ t : Fin 4, ev (ix2 (Cert.Spec.rowOf (center (ix1 b))) (lane64 t l)) *
              eu (ix2 (Cert.Spec.rowOf (ctx (ix1 b))) (lane64 t l)))
    (hpn : ∀ (r : Fin 10240) (c : Fin 128) (h : r.val * 128 + c.val < 1310720),
        pn (ix2 r c) = pneg (ix1 ⟨r.val * 128 + c.val, h⟩))
    (hpp : ∀ (r : Fin 2048) (c : Fin 128) (h : r.val * 128 + c.val < 262144),
        pp (ix2 r c) = ppos (ix1 ⟨r.val * 128 + c.val, h⟩)) :
    k2_pay1 (F := Ideal) (k2_pay3 pn) (k2_pay4 pp) = Cert.Spec.loss center ctx neg ev eu :=
  (stored_value pn pp).trans
    (Cert.Bridge.kernel_closed_form_eq_loss center ctx neg ev eu pneg ppos pn pp hev heu hneg hpos hpn hpp)

end Cert.KernelIdeal.LossBody

end
-- ==== Proof.Reshapes.lean ====
/-
  Row-major reshapes between a flat array and a matrix, read at an index: entry `(r, c)` of an `a × b` matrix and
  entry `r * b + c` of the flat array of the same elements are the same element.
-/
import Idealize.ShloMosaic.Lib.ValueLayout

namespace Cert.Reshapes

open Idealize.ShloMosaic Idealize.ShloMosaic.ValueIdx

variable {α : Type}

/-- A flat array cast to an `a × b` matrix reads, at `(r, c)`, the flat array at `r * b + c`. -/
theorem shapeCast_flat_to_rows {a b n : ℕ} (x : (⟨1, ![n]⟩ : Shape).Idx → α)
    (h : (⟨1, ![n]⟩ : Shape).ShapeCasts ⟨2, ![a, b]⟩) (r : Fin a) (c : Fin b) (hlt : r.val * b + c.val < n) :
    shapeCast ⟨2, ![a, b]⟩ x h (ix2 r c) = x (ix1 ⟨r.val * b + c.val, hlt⟩) :=
  shapeCast_apply x h _ _ (by
    rw [Shape.rowMajor_val_one, Shape.rowMajor_val_two]
    rfl)

/-- An `a × b` matrix cast to a flat array reads, at `r * b + c`, the matrix at `(r, c)`. -/
theorem shapeCast_rows_to_flat {a b n : ℕ} (x : (⟨2, ![a, b]⟩ : Shape).Idx → α)
    (h : (⟨2, ![a, b]⟩ : Shape).ShapeCasts ⟨1, ![n]⟩) (r : Fin a) (c : Fin b) (hlt : r.val * b + c.val < n) :
    shapeCast ⟨1, ![n]⟩ x h (ix1 ⟨r.val * b + c.val, hlt⟩) = x (ix2 r c) :=
  shapeCast_apply x h _ _ (by
    rw [Shape.rowMajor_val_one, Shape.rowMajor_val_two]
    rfl)

end Cert.Reshapes
-- ==== Proof.PreFacts.lean ====
/-
  The input-domain precondition read back. The precondition is one bit: the conjunction of five
  "for all entries" tests — every entry of the two tables is finite (|x| < +inf), and every index word
  of the three integer arrays lies in [0, 999999] read as a signed integer. Read back entry by entry:
  each index word w satisfies 0 ≤ w.toInt ≤ 999999 (for every float instance), hence w.toNat < 1000000;
  and on the extended reals |x| < +inf says x is a real number.
-/
import proofs.«218857_g62938450756068_cont_9to1c4b_813_41_alg».proof.Pre_input_domain
import proofs.«218857_g62938450756068_cont_9to1c4b_813_41_alg».proof.Proof.Gen.Pre_input_domain
import Idealize.ShloMosaic.Lib.ReduceAll
import Idealize.ShloMosaic.Lib.ValueIdx
import Idealize.ShloMosaic.PureOps.Ideal

noncomputable section

namespace Cert.PreFacts

open Idealize.ShloMosaic Idealize.ShloMosaic.ValueIdx Cert.Pre_input_domain Cert.Pre_input_domain.Gen

/-- The scalar shape has one index. -/
instance : Subsingleton S_.Idx := ⟨fun a b => funext fun d => d.elim0⟩

/-- A 32-bit word whose signed reading lies in [0, 999999] reads the same unsigned, below 1000000. -/
theorem toNat_lt_of_toInt {w : BitVec 32} (h0 : 0 ≤ w.toInt) (h1 : w.toInt ≤ 999999) : w.toNat < 1000000 := by
  have hw := w.isLt
  unfold BitVec.toInt at h0 h1
  split at h0 <;> omega

section AnyInstance
variable {F : FTy → Type} [FloatOps F]

/-- The precondition's five conjuncts, each a test that holds at every entry: the two tables' entries
    compare below the word 0x7F800000 in absolute value, and each index word passes the two signed
    comparisons against 0 and 999999. -/
theorem split (a0 a1 : IVec S16384 32) (a2 : IVec S16384x5 32) (a3 a4 : FVec F S1000000x64 .f32)
    (h : fn (F := F) a0 a1 a2 a3 a4 = fun _ => 1#1) :
    (∀ i, FloatOps.cmpf .olt (FloatOps.hostAbsf (a3 i)) (FloatOps.ofBits (F := F) .f32 0x7F800000#32) = 1#1)
    ∧ (∀ i, FloatOps.cmpf .olt (FloatOps.hostAbsf (a4 i)) (FloatOps.ofBits (F := F) .f32 0x7F800000#32) = 1#1)
    ∧ (∀ i, IntOp.cmpi .sge (a0 i) 0#32 = 1#1 ∧ IntOp.cmpi .sle (a0 i) 999999#32 = 1#1)
    ∧ (∀ i, IntOp.cmpi .sge (a1 i) 0#32 = 1#1 ∧ IntOp.cmpi .sle (a1 i) 999999#32 = 1#1)
    ∧ (∀ i, IntOp.cmpi .sge (a2 i) 0#32 = 1#1 ∧ IntOp.cmpi .sle (a2 i) 999999#32 = 1#1) := by
  have e := congrFun h ix0
  unfold fn fn_part1 at e
  dsimp only at e
  obtain ⟨e1, h28⟩ := IntOp.andi_eq_one.1 (show IntOp.andi _ _ = 1#1 from e)
  obtain ⟨e2, h21⟩ := IntOp.andi_eq_one.1 (show IntOp.andi _ _ = 1#1 from e1)
  obtain ⟨e3, h14⟩ := IntOp.andi_eq_one.1 (show IntOp.andi _ _ = 1#1 from e2)
  obtain ⟨h3, h7⟩ := IntOp.andi_eq_one.1 (show IntOp.andi _ _ = 1#1 from e3)
  refine ⟨fun i => Host.reduce_andi_all _ _ _ _ _ h3 i, fun i => Host.reduce_andi_all _ _ _ _ _ h7 i,
    fun i => ?_, fun i => ?_, fun i => ?_⟩
  · exact IntOp.andi_eq_one.1 (show IntOp.andi _ _ = 1#1 from Host.reduce_andi_all _ _ _ _ _ h14 i)
  · exact IntOp.andi_eq_one.1 (show IntOp.andi _ _ = 1#1 from Host.reduce_andi_all _ _ _ _ _ h21 i)
  · exact IntOp.andi_eq_one.1 (show IntOp.andi _ _ = 1#1 from Host.reduce_andi_all _ _ _ _ _ h28 i)

/-- A word that passes the two signed comparisons lies in [0, 999999] read signed. -/
theorem range_of_cmp {w : BitVec 32} (h : IntOp.cmpi .sge w 0#32 = 1#1 ∧ IntOp.cmpi .sle w 999999#32 = 1#1) :
    0 ≤ w.toInt ∧ w.toInt ≤ 999999 := by
  obtain ⟨h0, h1⟩ := h
  rw [IntOp.cmpi_sge] at h0
  rw [IntOp.cmpi_sle] at h1
  exact ⟨by simpa using h0, by simpa using h1⟩

/-- THE INDEX RANGES, for every float instance: each index word of the three integer arrays lies in
    [0, 999999] read as a signed integer. -/
theorem index_ranges (a0 a1 : IVec S16384 32) (a2 : IVec S16384x5 32) (a3 a4 : FVec F S1000000x64 .f32)
    (h : fn (F := F) a0 a1 a2 a3 a4 = fun _ => 1#1) :
    (∀ i, 0 ≤ (a0 i).toInt ∧ (a0 i).toInt ≤ 999999)
    ∧ (∀ i, 0 ≤ (a1 i).toInt ∧ (a1 i).toInt ≤ 999999)
    ∧ (∀ i, 0 ≤ (a2 i).toInt ∧ (a2 i).toInt ≤ 999999) :=
  have hs := split a0 a1 a2 a3 a4 h
  ⟨fun i => range_of_cmp (hs.2.2.1 i), fun i => range_of_cmp (hs.2.2.2.1 i), fun i => range_of_cmp (hs.2.2.2.2 i)⟩

/-- Hence each index word, read unsigned, is below the tables' 1000000 rows. -/
theorem index_lt (a0 a1 : IVec S16384 32) (a2 : IVec S16384x5 32) (a3 a4 : FVec F S1000000x64 .f32)
    (h : fn (F := F) a0 a1 a2 a3 a4 = fun _ => 1#1) :
    (∀ i, (a0 i).toNat < 1000000) ∧ (∀ i, (a1 i).toNat < 1000000) ∧ (∀ i, (a2 i).toNat < 1000000) :=
  have hr := index_ranges a0 a1 a2 a3 a4 h
  ⟨fun i => toNat_lt_of_toInt (hr.1 i).1 (hr.1 i).2, fun i => toNat_lt_of_toInt (hr.2.1 i).1 (hr.2.1 i).2,
    fun i => toNat_lt_of_toInt (hr.2.2 i).1 (hr.2.2 i).2⟩

end AnyInstance

/-! ## On the extended reals: finite means real -/

/-- The word 0x7F800000 reads +inf. -/
theorem inf_word : Ideal.ofBits .f32 0x7F800000#32 = (⊤ : EReal) := by simp [Ideal.ofBits, Ideal.ieee]

/-- An extended real whose absolute value max(x, -x) is below +inf is a real number. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have h' : Ideal.cmp .olt (max x (-x)) (Ideal.ofBits .f32 0x7F800000#32) = 1#1 := h
  rw [inf_word] at h'
  have hlt : max x (-x) < ⊤ := by
    unfold Ideal.cmp at h'
    by_contra hn
    simp [hn] at h'
  induction x using EReal.rec with
  | bot => simp at hlt
  | coe r => exact ⟨r, rfl⟩
  | top => simp at hlt

/-- THE TABLES' ENTRIES ARE REAL, at the ideal instance: every entry of both tables is a real number. -/
theorem real_entries (a0 a1 : IVec S16384 32) (a2 : IVec S16384x5 32) (a3 a4 : FVec Ideal S1000000x64 .f32)
    (h : fn (F := Ideal) a0 a1 a2 a3 a4 = fun _ => 1#1) :
    (∀ i, ∃ r : ℝ, a3 i = (r : EReal)) ∧ (∀ i, ∃ r : ℝ, a4 i = (r : EReal)) :=
  have hs := split a0 a1 a2 a3 a4 h
  ⟨fun i => real_of_abs_lt _ (hs.1 i), fun i => real_of_abs_lt _ (hs.2.1 i)⟩

end Cert.PreFacts

end
-- ==== Proof.KernelValue.lean ====
/-
  The value the kernel program stores is the specification's loss — the arithmetic, with no machine in it.

  The two SparseCore kernels leave two flat arrays of lane partial products: position (5b + k)·16 + l of the
  first holds 0 - (((n0 u0 + n1 u1) + n2 u2) + n3 u3) with n_t = eu[neg b k][16t + l], u_t = eu[ctx b][16t + l],
  and position 16b + l of the second holds ((v0 u0 + v1 u1) + v2 u2) + v3 u3 with v_t = ev[center b][16t + l]
  and u the copied row eu[ctx b]. On the extended reals 0 - x = -x for every x, and a four-term sum written
  out is the sum over t < 4; so the first is minus the lane's partial inner product and the second the lane's
  partial inner product, the rows being the ones the index words name. Read row-major as matrices with rows of
  128, these are exactly the arrays whose loss-kernel value is the specification's loss, the tables' entries
  being real numbers under the input-domain precondition.
-/
import proofs.«218857_g62938450756068_cont_9to1c4b_813_41_alg».proof.Proof.TileUDefs
import proofs.«218857_g62938450756068_cont_9to1c4b_813_41_alg».proof.Proof.TileVDefs
import proofs.«218857_g62938450756068_cont_9to1c4b_813_41_alg».proof.Proof.LossValue
import proofs.«218857_g62938450756068_cont_9to1c4b_813_41_alg».proof.Proof.Reshapes
import proofs.«218857_g62938450756068_cont_9to1c4b_813_41_alg».proof.Proof.PreFacts

noncomputable section

open scoped BigOperators

namespace Cert.Proof.KernelValue

open Cert.KernelIdeal Cert.Proof.KernelIdealBase
open Idealize.ShloMosaic Idealize.ShloMosaic.ValueIdx Cert.Lanes

variable (m : (ℓ : Loc nD τ sig) → Buf (Elt Ideal) ℓ) (d : Dev nD)

/-! ## The arrays at their value types -/

/-- The centre words, the context words and the negative samples of device d. -/
abbrev cen : Cert.Spec.SB.Idx → BitVec 32 := m (centerLoc d)
abbrev ctx : Cert.Spec.SB.Idx → BitVec 32 := m (ctxLoc d)
abbrev neg : Cert.Spec.SBK.Idx → BitVec 32 := m (negLoc d)
/-- The two tables. -/
abbrev ev : Cert.Spec.STab.Idx → EReal := m (evLoc d)
abbrev eu : Cert.Spec.STab.Idx → EReal := m (euLoc d)
/-- The two flat arrays of lane partial products. -/
abbrev pneg : (⟨1, ![1310720]⟩ : Shape).Idx → EReal := TileU.pnegF m d
abbrev ppos : (⟨1, ![262144]⟩ : Shape).Idx → EReal := TileVDefs.pposF m d (TileU.urowsF m d)

/-! ## The negative partial products -/

/-- Position (5b + k)·16 + l of the flat array is partial product (b, k, l): the position splits back into its
    three coordinates. -/
theorem pneg_at (b : Fin 16384) (k : Fin 5) (l : Fin 16) (h : (b.val * 5 + k.val) * 16 + l.val < 1310720) :
    pneg m d (ix1 ⟨(b.val * 5 + k.val) * 16 + l.val, h⟩) = TileU.partial1 m d b k l := by
  have hb : ((b.val * 5 + k.val) * 16 + l.val) / 80 = b.val := by omega
  have hk : ((b.val * 5 + k.val) * 16 + l.val) / 16 % 5 = k.val := by omega
  have hl : ((b.val * 5 + k.val) * 16 + l.val) % 16 = l.val := by omega
  unfold pneg TileU.pnegF
  exact congr (congr (congrArg (TileU.partial1 m d) (Fin.ext hb)) (Fin.ext hk)) (Fin.ext hl)

/-- A partial product is minus the lane's four-term part of the inner product of the negative's row and the
    context's row: 0 - x = -x, and the nested four-term sum is the sum over t < 4. -/
theorem partial1_eq (b : Fin 16384) (k : Fin 5) (l : Fin 16) :
    TileU.partial1 m d b k l
      = -(∑ t : Fin 4, eu m d (ix2 (Cert.Spec.rowOf (neg m d (ix2 b k))) (lane64 t l))
            * eu m d (ix2 (Cert.Spec.rowOf (ctx m d (ix1 b))) (lane64 t l))) := by
  rw [Fin.sum_univ_four]
  show Ideal.ofBits .f32 0x00000000#32 - _ = _
  rw [Ideal.ofBits_zero_f32, zero_sub]
  rfl

/-! ## The positive partial products -/

/-- Position 16b + l of the second flat array is the lane's four-term part of the inner product of the centre's
    row of ev and the context's row of eu (the copied rows being rows of eu). -/
theorem ppos_at (b : Fin 16384) (l : Fin 16) (h : b.val * 16 + l.val < 262144) :
    ppos m d (ix1 ⟨b.val * 16 + l.val, h⟩)
      = ∑ t : Fin 4, ev m d (ix2 (Cert.Spec.rowOf (cen m d (ix1 b))) (lane64 t l))
            * eu m d (ix2 (Cert.Spec.rowOf (ctx m d (ix1 b))) (lane64 t l)) := by
  have hb : (b.val * 16 + l.val) / 16 = b.val := by omega
  have hl : (b.val * 16 + l.val) % 16 = l.val := by omega
  unfold ppos TileVDefs.pposF
  refine (congr (congrArg (TileVDefs.pposAt m d (TileU.urowsF m d)) (Fin.ext hb)) (Fin.ext hl)).trans ?_
  rw [Fin.sum_univ_four]
  rfl

/-! ## The stored value -/

/-- THE KERNEL'S VALUE IS THE LOSS: the loss kernel's scalar at the two partial-product arrays read as rows of
    128, under the input-domain precondition on the launch memory's five argument arrays. -/
theorem kernel_value_eq_loss
    (hpre : Cert.Pre_input_domain.fn (F := Ideal) (m (centerLoc d)) (m (ctxLoc d)) (m (negLoc d)) (m (evLoc d)) (m (euLoc d))
      = fun _ => 1#1) :
    Gen.k2_pay1 (F := Ideal)
        (Gen.k2_pay3 (shapeCast S10240x128 (TileU.pnegF m d) Cert.KernelIdeal.Shapes1.Facts₀.shapeCasts_S1310720_S10240x128))
        (Gen.k2_pay4 (shapeCast S2048x128 (TileVDefs.pposF m d (TileU.urowsF m d))
          Cert.KernelIdeal.Shapes1.Facts₀.shapeCasts_S262144_S2048x128))
      = Cert.Spec.loss (m (centerLoc d)) (m (ctxLoc d)) (m (negLoc d)) (m (evLoc d)) (m (euLoc d)) := by
  obtain ⟨hev, heu⟩ := Cert.PreFacts.real_entries _ _ _ _ _ hpre
  exact Cert.KernelIdeal.LossBody.stored_value_eq_loss (m (centerLoc d)) (m (ctxLoc d)) (m (negLoc d)) (m (evLoc d)) (m (euLoc d))
    (pneg m d) (ppos m d) _ _ hev heu
    (fun b k l h => (pneg_at m d b k l h).trans (partial1_eq m d b k l))
    (fun b l h => ppos_at m d b l h)
    (fun r c h => Cert.Reshapes.shapeCast_flat_to_rows _ _ r c h)
    (fun r c h => Cert.Reshapes.shapeCast_flat_to_rows _ _ r c h)

end Cert.Proof.KernelValue

end
-- ==== Proof.GatherRow.lean ====
/-
  A row gather read at an index. `stablehlo.gather` of a table [N, W] at an array of start indices whose last
  axis has extent one — what taking rows of a table at an array of indices lowers to: offset axis the last one
  of the result, the table's axis 0 collapsed and named by the start index, slice sizes [1, W] — reads, at
  result index (b, d) (or (b, k, d)), the table at row "start index at b (or (b, k)), read as a signed integer
  and clamped into [0, N - 1]" and column d.
-/
import Idealize.ShloMosaic.PureOps.Ideal
import Idealize.ShloMosaic.Lib.ValueIdx

noncomputable section

namespace Cert.GatherRow

open Idealize.ShloMosaic Idealize.ShloMosaic.ValueIdx

variable {α : Type}

/-- The dimension numbers of a row gather at a vector of R start indices, as an [R, 1] array. -/
abbrev rowDims (N W R : Nat)
    (wf : GatherDims.WF ⟨2, ![N, W]⟩ ⟨2, ![R, 1]⟩ ⟨2, ![R, W]⟩ [1] [0] [] [0] [] 1 ![1, W]) :
    GatherDims ⟨2, ![N, W]⟩ ⟨2, ![R, 1]⟩ ⟨2, ![R, W]⟩ where
  offsetDims := [1]
  collapsedSliceDims := [0]
  operandBatchingDims := []
  startIndicesBatchingDims := []
  startIndexMap := [0]
  indexVectorDim := 1
  sliceSizes := ![1, W]
  wf := wf

/-- THE ROW GATHER READ AT (b, d): the table at the row the start index at b names, read signed and clamped
    into [0, N - 1], and column d. -/
theorem gather_row_apply {N W R w : Nat} (hN : 0 < N)
    (wf : GatherDims.WF ⟨2, ![N, W]⟩ ⟨2, ![R, 1]⟩ ⟨2, ![R, W]⟩ [1] [0] [] [0] [] 1 ![1, W])
    (x : (⟨2, ![N, W]⟩ : Shape).Idx → α) (idx : IVec ⟨2, ![R, 1]⟩ w) (b : Fin R) (d : Fin W) :
    Host.gather (rowDims N W R wf) x idx (ix2 b d)
      = x (ix2 (⟨min (idx (ix2 b (⟨0, Nat.one_pos⟩ : Fin 1))).toInt.toNat (N - 1), by omega⟩ : Fin N) d) := by
  unfold Host.gather
  congr 1
  funext a
  refine Fin.ext ?_
  match a with
  | ⟨0, _⟩ =>
    show (rowDims N W R wf).start (ix2 b d) idx 0 + (rowDims N W R wf).batchCoord (ix2 b d) 0
        + (rowDims N W R wf).offCoord (ix2 b d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N W R wf).startIndexMap from List.mem_singleton.mpr rfl)]
    have hsi : (rowDims N W R wf).siIdx (ix2 b d) ⟨List.idxOf (0 : Fin 2) (rowDims N W R wf).startIndexMap,
        List.idxOf_lt_length_iff.2 (List.mem_singleton.mpr rfl)⟩ = ix2 b (⟨0, Nat.one_pos⟩ : Fin 1) := by
      funext e; refine Fin.ext ?_
      match e with
      | ⟨0, _⟩ => rfl
      | ⟨1, _⟩ => rfl
    rw [hsi]
    rfl
  | ⟨1, _⟩ =>
    show (rowDims N W R wf).start (ix2 b d) idx 1 + (rowDims N W R wf).batchCoord (ix2 b d) 1
        + (rowDims N W R wf).offCoord (ix2 b d) 1 = d.val
    rw [GatherDims.batchCoord_eq_zero _ _ _ List.not_mem_nil]
    unfold GatherDims.start
    rw [dif_neg (show ¬ (1 : Fin 2) ∈ (rowDims N W R wf).startIndexMap from (by decide : (1 : Fin 2) ∉ [(0 : Fin 2)]))]
    unfold GatherDims.offCoord
    rw [dif_pos ((GatherDims.mem_sKept _ _).mpr ⟨(by decide : (1 : Fin 2) ∉ [(0 : Fin 2)]), List.not_mem_nil⟩)]
    simp only [Nat.zero_add]
    rfl

/-- The dimension numbers of a row gather at an [R, K] array of start indices, as an [R, K, 1] array. -/
abbrev rowDims3 (N W R K : Nat)
    (wf : GatherDims.WF ⟨2, ![N, W]⟩ ⟨3, ![R, K, 1]⟩ ⟨3, ![R, K, W]⟩ [2] [0] [] [0] [] 2 ![1, W]) :
    GatherDims ⟨2, ![N, W]⟩ ⟨3, ![R, K, 1]⟩ ⟨3, ![R, K, W]⟩ where
  offsetDims := [2]
  collapsedSliceDims := [0]
  operandBatchingDims := []
  startIndicesBatchingDims := []
  startIndexMap := [0]
  indexVectorDim := 2
  sliceSizes := ![1, W]
  wf := wf

/-- THE ROW GATHER READ AT (b, k, d): the table at the row the start index at (b, k) names, read signed and
    clamped into [0, N - 1], and column d. -/
theorem gather_row3_apply {N W R K w : Nat} (hN : 0 < N)
    (wf : GatherDims.WF ⟨2, ![N, W]⟩ ⟨3, ![R, K, 1]⟩ ⟨3, ![R, K, W]⟩ [2] [0] [] [0] [] 2 ![1, W])
    (x : (⟨2, ![N, W]⟩ : Shape).Idx → α) (idx : IVec ⟨3, ![R, K, 1]⟩ w) (b : Fin R) (k : Fin K) (d : Fin W) :
    Host.gather (rowDims3 N W R K wf) x idx (ix3 b k d)
      = x (ix2 (⟨min (idx (ix3 b k (⟨0, Nat.one_pos⟩ : Fin 1))).toInt.toNat (N - 1), by omega⟩ : Fin N) d) := by
  unfold Host.gather
  congr 1
  funext a
  refine Fin.ext ?_
  match a with
  | ⟨0, _⟩ =>
    show (rowDims3 N W R K wf).start (ix3 b k d) idx 0 + (rowDims3 N W R K wf).batchCoord (ix3 b k d) 0
        + (rowDims3 N W R K wf).offCoord (ix3 b k d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims3 N W R K wf).startIndexMap from List.mem_singleton.mpr rfl)]
    have hsi : (rowDims3 N W R K wf).siIdx (ix3 b k d) ⟨List.idxOf (0 : Fin 2) (rowDims3 N W R K wf).startIndexMap,
        List.idxOf_lt_length_iff.2 (List.mem_singleton.mpr rfl)⟩ = ix3 b k (⟨0, Nat.one_pos⟩ : Fin 1) := by
      funext e; refine Fin.ext ?_
      match e with
      | ⟨0, _⟩ => rfl
      | ⟨1, _⟩ => rfl
      | ⟨2, _⟩ => rfl
    rw [hsi]
    rfl
  | ⟨1, _⟩ =>
    show (rowDims3 N W R K wf).start (ix3 b k d) idx 1 + (rowDims3 N W R K wf).batchCoord (ix3 b k d) 1
        + (rowDims3 N W R K wf).offCoord (ix3 b k d) 1 = d.val
    rw [GatherDims.batchCoord_eq_zero _ _ _ List.not_mem_nil]
    unfold GatherDims.start
    rw [dif_neg (show ¬ (1 : Fin 2) ∈ (rowDims3 N W R K wf).startIndexMap from (by decide : (1 : Fin 2) ∉ [(0 : Fin 2)]))]
    unfold GatherDims.offCoord
    rw [dif_pos ((GatherDims.mem_sKept _ _).mpr ⟨(by decide : (1 : Fin 2) ∉ [(0 : Fin 2)]), List.not_mem_nil⟩)]
    simp only [Nat.zero_add]
    rfl

end Cert.GatherRow

end
-- ==== Proof.RefSpec.lean ====
/-
  The reference's result is the specification's loss. Under the input-domain precondition every index word
  lies in [0, 999999], so in each row lookup the wrap of negative words does nothing, the in-range mask is 1
  everywhere, and the gathered row is the table's row at the word itself; the positive part is then log σ of
  the inner product of the two looked-up rows, the negative part the sum over the five samples of log σ of
  minus the inner product, and the result minus the batch sum divided by 16384 — the specification, term by term.
-/
import proofs.«218857_g62938450756068_cont_9to1c4b_813_41_alg».proof.Proof.RefTerm
import proofs.«218857_g62938450756068_cont_9to1c4b_813_41_alg».proof.Proof.Spec
import proofs.«218857_g62938450756068_cont_9to1c4b_813_41_alg».proof.Proof.PreFacts
import proofs.«218857_g62938450756068_cont_9to1c4b_813_41_alg».proof.Proof.GatherRow
import Idealize.ShloMosaic.PureOps.Ideal.Laws
import Idealize.ShloMosaic.Lib.IdealHost
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx Cert.Spec

/-! ## Words -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- A reduction by `and`, from 1, of an array of ones is 1 at every index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ fun n _ => hx n

/-- A word that is not negative read signed fails the test "below zero". -/
theorem slt_zero_of_nonneg {w : BitVec 32} (h : 0 ≤ w.toInt) : IntOp.cmpi .slt w 0#32 = 0#1 :=
  eq_zero_of_ne_one fun e => by
    rw [IntOp.cmpi_slt] at e
    have : (0#32 : BitVec 32).toInt = 0 := by decide
    omega

/-- A word in [0, 999999] read signed passes both range tests. -/
theorem in_range_bits {w : BitVec 32} (h : 0 ≤ w.toInt ∧ w.toInt ≤ 999999) :
    IntOp.andi (IntOp.cmpi .sge w 0#32) (IntOp.cmpi .sle w 999999#32) = 1#1 := by
  have h0 : (0#32 : BitVec 32).toInt = 0 := by decide
  have h1 : (999999#32 : BitVec 32).toInt = 999999 := by decide
  exact IntOp.andi_eq_one.2 ⟨IntOp.cmpi_sge.2 (by omega), IntOp.cmpi_sle.2 (by omega)⟩

/-- For a word in [0, 999999] read signed, the signed reading clamped into the table is the row the word names. -/
theorem clamp_eq_rowOf {w : BitVec 32} (h : 0 ≤ w.toInt ∧ w.toInt ≤ 999999) :
    min w.toInt.toNat (1000000 - 1) = (rowOf w).val := by
  have hlt := Cert.PreFacts.toNat_lt_of_toInt h.1 h.2
  rw [rowOf_val_of_lt hlt]
  have e : w.toInt = (w.toNat : Int) := by
    have hw := w.isLt
    unfold BitVec.toInt
    have h0 := h.1
    unfold BitVec.toInt at h0
    split <;> rename_i hc
    · rfl
    · rw [if_neg hc] at h0; omega
  rw [e, Int.toNat_natCast]
  omega

section AnyInstance
variable {F : FTy → Type} [FloatOps F]

/-! ## A row lookup at a vector of words in range -/

/-- A word that is not negative is not wrapped. -/
theorem wrap1_apply (idx : IVec S16384 32) (i : S16384.Idx) (h : 0 ≤ (idx i).toInt) : wrap1 idx i = idx i := by
  show Scalar.select (IntOp.cmpi .slt (idx i) 0#32) _ (idx i) = idx i
  rw [slt_zero_of_nonneg h, select_zero]

/-- The column of start indices at (b, 0) is the wrapped word at b. -/
theorem col1_apply (idx : IVec S16384 32) (b : Fin 16384) (z : Fin 1) : col1 idx (ix2 b z) = wrap1 idx (ix1 b) := by
  unfold col1
  exact broadcastInDim_apply _ _ _ _ (ix1 b) fun a => by
    match a with
    | ⟨0, _⟩ => exact (if_neg (by decide : ¬ (16384 : ℕ) = 1)).symm

/-- With every word in range the mask is 1 everywhere. -/
theorem inRange1_apply (idx : IVec S16384 32) (hr : ∀ i, 0 ≤ (idx i).toInt ∧ (idx i).toInt ≤ 999999) (j : S16384.Idx) :
    inRange1 idx j = 1#1 := by
  unfold inRange1
  refine reduce_andi_of_all _ _ _ _ rfl (fun i => ?_) j
  obtain ⟨b, z, rfl⟩ : ∃ (b : Fin 16384) (z : Fin 1), i = ix2 b z := ⟨i 0, i 1, eq_ix2 i⟩
  show IntOp.andi (IntOp.cmpi .sge (col1 idx (ix2 b z)) 0#32) (IntOp.cmpi .sle (col1 idx (ix2 b z)) 999999#32) = 1#1
  rw [col1_apply, wrap1_apply idx _ (hr _).1]
  exact in_range_bits (hr _)

/-- THE ROW LOOKUP READ AT (b, d), for words in range: the table's entry at the row the word at b names, column d. -/
theorem takeRows_apply (tab : FVec F S1000000x64 .f32) (idx : IVec S16384 32)
    (hr : ∀ i, 0 ≤ (idx i).toInt ∧ (idx i).toInt ≤ 999999) (b : Fin 16384) (d : Fin 64) :
    takeRows tab idx (ix2 b d) = tab (ix2 (rowOf (idx (ix1 b))) d) := by
  unfold takeRows
  rw [select_apply,
    show broadcastInDim S16384x64 ![0] bcast_S16384_S16384x64_0 (inRange1 idx) (ix2 b d) = 1#1 from inRange1_apply idx hr _,
    select_one,
    show gather_S1000000x64_S16384x1_S16384x64_1_0_n_n_0_1_164
        = Cert.GatherRow.rowDims 1000000 64 16384 gather_S1000000x64_S16384x1_S16384x64_1_0_n_n_0_1_164_wf from rfl,
    Cert.GatherRow.gather_row_apply (by decide)]
  refine congrArg tab (congrArg (fun r => ix2 r d) (Fin.ext ?_))
  show min (col1 idx (ix2 b (⟨0, Nat.one_pos⟩ : Fin 1))).toInt.toNat (1000000 - 1) = (rowOf (idx (ix1 b))).val
  rw [col1_apply, wrap1_apply idx _ (hr _).1]
  exact clamp_eq_rowOf (hr _)

/-! ## A row lookup at a matrix of words in range -/

theorem wrap5_apply (idx : IVec S16384x5 32) (i : S16384x5.Idx) (h : 0 ≤ (idx i).toInt) : wrap5 idx i = idx i := by
  show Scalar.select (IntOp.cmpi .slt (idx i) 0#32) _ (idx i) = idx i
  rw [slt_zero_of_nonneg h, select_zero]

/-- The start indices at (b, k, 0) are the wrapped word at (b, k). -/
theorem col5_apply (idx : IVec S16384x5 32) (b : Fin 16384) (k : Fin 5) (z : Fin 1) :
    col5 idx (ix3 b k z) = wrap5 idx (ix2 b k) := by
  unfold col5
  exact broadcastInDim_apply _ _ _ _ (ix2 b k) fun a => by
    match a with
    | ⟨0, _⟩ => exact (if_neg (by decide : ¬ (16384 : ℕ) = 1)).symm
    | ⟨1, _⟩ => exact (if_neg (by decide : ¬ (5 : ℕ) = 1)).symm

theorem inRange5_apply (idx : IVec S16384x5 32) (hr : ∀ i, 0 ≤ (idx i).toInt ∧ (idx i).toInt ≤ 999999) (j : S16384x5.Idx) :
    inRange5 idx j = 1#1 := by
  unfold inRange5
  refine reduce_andi_of_all _ _ _ _ rfl (fun i => ?_) j
  obtain ⟨b, k, z, rfl⟩ : ∃ (b : Fin 16384) (k : Fin 5) (z : Fin 1), i = ix3 b k z := ⟨i 0, i 1, i 2, eq_ix3 i⟩
  show IntOp.andi (IntOp.cmpi .sge (col5 idx (ix3 b k z)) 0#32) (IntOp.cmpi .sle (col5 idx (ix3 b k z)) 999999#32) = 1#1
  rw [col5_apply, wrap5_apply idx _ (hr _).1]
  exact in_range_bits (hr _)

/-- THE ROW LOOKUP READ AT (b, k, d), for words in range: the table's entry at the row the word at (b, k) names, column d. -/
theorem takeRows5_apply (tab : FVec F S1000000x64 .f32) (idx : IVec S16384x5 32)
    (hr : ∀ i, 0 ≤ (idx i).toInt ∧ (idx i).toInt ≤ 999999) (b : Fin 16384) (k : Fin 5) (d : Fin 64) :
    takeRows5 tab idx (ix3 b k d) = tab (ix2 (rowOf (idx (ix2 b k))) d) := by
  unfold takeRows5
  rw [select_apply,
    show broadcastInDim S16384x5x64 ![0, 1] bcast_S16384x5_S16384x5x64_0_1 (inRange5 idx) (ix3 b k d) = 1#1 from inRange5_apply idx hr _,
    select_one,
    show gather_S1000000x64_S16384x5x1_S16384x5x64_2_0_n_n_0_2_164
        = Cert.GatherRow.rowDims3 1000000 64 16384 5 gather_S1000000x64_S16384x5x1_S16384x5x64_2_0_n_n_0_2_164_wf from rfl,
    Cert.GatherRow.gather_row3_apply (by decide)]
  refine congrArg tab (congrArg (fun r => ix2 r d) (Fin.ext ?_))
  show min (col5 idx (ix3 b k (⟨0, Nat.one_pos⟩ : Fin 1))).toInt.toNat (1000000 - 1) = (rowOf (idx (ix2 b k))).val
  rw [col5_apply, wrap5_apply idx _ (hr _).1]
  exact clamp_eq_rowOf (hr _)

end AnyInstance

/-! ## At the ideal instance: the sums and the scores -/

/-- The word 0x46800000 reads 16384. -/
theorem word_16384 : Ideal.ofBits .f32 0x46800000#32 = ((16384 : ℝ) : EReal) := by
  simp [Ideal.ofBits, Ideal.ieee, -EReal.coe_mul]; norm_num

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- log(1 / (1 + exp(-x))) with the literal 1.0 is log σ(x). -/
theorem logSigV_apply {s : Shape} (h : S_.BroadcastsInDim s ![]) (x : FVec Ideal s .f32) (i : s.Idx) :
    logSigV (broadcastInDim s ![] h (constant (F := Ideal) S_ .f32 0x3F800000#32)) x i = logSig (x i) := by
  show Ideal.log (Ideal.div (Ideal.ofBits .f32 0x3F800000#32) (Ideal.ofBits .f32 0x3F800000#32 + Ideal.exp (-(x i)))) = _
  rw [Ideal.ofBits_one_f32]
  rfl

/-- The sum over a row of the entrywise product of two [16384, 64] arrays, at b. -/
theorem rowsum_apply (v u : FVec Ideal S16384x64 .f32) (b : Fin 16384) :
    Host.reduceAdd (F := Ideal) (mulf v u) (constant (F := Ideal) S_ .f32 0x00000000#32) reducesTo_S16384x64_S16384_d1 h_S_ (ix1 b)
      = ∑ d : Fin 64, v (ix2 b d) * u (ix2 b d) := by
  have hR : S16384x64.Reduces [1] S16384 := by decide
  rw [hostReduceAdd_apply, Ideal.hostReduceAdd_single _ hR]
  show Ideal.ofBits .f32 0x00000000#32 + ∑ d : Fin 64, _ = _
  rw [Ideal.ofBits_zero_f32, zero_add]
  refine Finset.sum_congr rfl fun d _ => ?_
  have e : hR.lift (ix1 b) d = ix2 b d := by
    funext a; refine Fin.ext ?_
    match a with
    | ⟨0, _⟩ => rfl
    | ⟨1, _⟩ => rfl
  rw [e]
  rfl

/-- The positive part at b: log σ of the inner product of the two rows at b. -/
theorem posPart_apply (v u : FVec Ideal S16384x64 .f32) (b : Fin 16384) :
    posPart v u (ix1 b) = logSig (∑ d : Fin 64, v (ix2 b d) * u (ix2 b d)) := by
  unfold posPart
  rw [logSigV_apply, rowsum_apply]

/-- The contraction at (b, k): the inner product of row (b, k) of the first array with row b of the second. -/
theorem dot_apply (n : FVec Ideal S16384x5x64 .f32) (u : FVec Ideal S16384x64 .f32) (b : Fin 16384) (k : Fin 5) :
    Host.dotGeneral (F := Ideal) dot_S16384x5x64_S16384x64_S16384x5_2_1_1_n_0_0 none n u (ix2 b k)
      = ∑ d : Fin 64, n (ix3 b k d) * u (ix2 b d) := by
  show FloatOps.dotGeneral dot_S16384x5x64_S16384x64_S16384x5_2_1_1_n_0_0 none .single n u (ix2 b k) = _
  rw [Ideal.dotGeneral_apply,
    ← Equiv.sum_comp (contrEquiv1 dot_S16384x5x64_S16384x64_S16384x5_2_1_1_n_0_0 64 rfl rfl).symm]
  refine Finset.sum_congr rfl fun d _ => ?_
  have el : dot_S16384x5x64_S16384x64_S16384x5_2_1_1_n_0_0.lhsIdx (ix2 b k)
      ((contrEquiv1 dot_S16384x5x64_S16384x64_S16384x5_2_1_1_n_0_0 64 rfl rfl).symm d) = ix3 b k d := by
    funext a; refine Fin.ext ?_
    match a with
    | ⟨0, _⟩ => rfl
    | ⟨1, _⟩ => rfl
    | ⟨2, _⟩ =>
      exact (DotDims.lhsIdx_val_of_single dot_S16384x5x64_S16384x64_S16384x5_2_1_1_n_0_0 (cl := (2 : Fin 3)) rfl _ _).trans (contrEquiv1_symm_val dot_S16384x5x64_S16384x64_S16384x5_2_1_1_n_0_0 64 rfl rfl d)
  have er : dot_S16384x5x64_S16384x64_S16384x5_2_1_1_n_0_0.rhsIdx (ix2 b k)
      ((contrEquiv1 dot_S16384x5x64_S16384x64_S16384x5_2_1_1_n_0_0 64 rfl rfl).symm d) = ix2 b d := by
    funext a; refine Fin.ext ?_
    match a with
    | ⟨0, _⟩ => rfl
    | ⟨1, _⟩ =>
      exact (DotDims.rhsIdx_val_of_single dot_S16384x5x64_S16384x64_S16384x5_2_1_1_n_0_0 (cr := (1 : Fin 2)) rfl _ _).trans (contrEquiv1_symm_val dot_S16384x5x64_S16384x64_S16384x5_2_1_1_n_0_0 64 rfl rfl d)
  rw [el, er]

/-- The negative part at b: the sum over the five samples of log σ of minus the inner product. -/
theorem negPart_apply (n : FVec Ideal S16384x5x64 .f32) (u : FVec Ideal S16384x64 .f32) (b : Fin 16384) :
    negPart n u (ix1 b) = ∑ k : Fin 5, logSig (-(∑ d : Fin 64, n (ix3 b k d) * u (ix2 b d))) := by
  unfold negPart
  have hR : S16384x5.Reduces [1] S16384 := by decide
  rw [hostReduceAdd_apply, Ideal.hostReduceAdd_single _ hR]
  show Ideal.ofBits .f32 0x00000000#32 + ∑ k : Fin 5, _ = _
  rw [Ideal.ofBits_zero_f32, zero_add]
  refine Finset.sum_congr rfl fun k _ => ?_
  have e : hR.lift (ix1 b) k = ix2 b k := by
    funext a; refine Fin.ext ?_
    match a with
    | ⟨0, _⟩ => rfl
    | ⟨1, _⟩ => rfl
  rw [e, logSigV_apply]
  show logSig (-(Host.dotGeneral (F := Ideal) dot_S16384x5x64_S16384x64_S16384x5_2_1_1_n_0_0 none n u (ix2 b k))) = _
  rw [dot_apply]

/-- The last step: minus the sum over the batch divided by 16384. -/
theorem finish_apply (p q : FVec Ideal S16384 .f32) (j : S_.Idx) :
    finish p q j = -(Ideal.div (∑ b : Fin 16384, (p (ix1 b) + q (ix1 b))) ((16384 : ℝ) : EReal)) := by
  unfold finish
  show -(Ideal.div (Host.reduceAdd (F := Ideal) (addf p q) (constant (F := Ideal) S_ .f32 0x00000000#32) reducesTo_S16384_S_d0 h_S_ j)
      (Ideal.ofBits .f32 0x46800000#32)) = _
  rw [hostReduceAdd_apply, Ideal.hostReduceAdd_total _ (fun b => b.elim0), word_16384]
  show -(Ideal.div (Ideal.ofBits .f32 0x00000000#32 + _) _) = _
  rw [Ideal.ofBits_zero_f32, zero_add, sum_idx1]
  rfl

/-- THE REFERENCE'S RESULT IS THE LOSS: under the input-domain precondition, for the arguments in the program's
    order (center words, context words, negative samples, the table of center vectors, the table of context vectors). -/
theorem refOut_eq_loss (a0 a1 : IVec S16384 32) (a2 : IVec S16384x5 32) (a3 a4 : FVec Ideal S1000000x64 .f32)
    (hpre : Cert.Pre_input_domain.fn (F := Ideal) a0 a1 a2 a3 a4 = fun _ => 1#1) :
    refOut a0 a1 a2 a3 a4 = fun _ => Cert.Spec.loss a0 a1 a2 a3 a4 := by
  obtain ⟨h0, h1, h2⟩ := Cert.PreFacts.index_ranges a0 a1 a2 a3 a4 hpre
  funext j
  unfold refOut
  rw [finish_apply]
  unfold Cert.Spec.loss Cert.Spec.total
  refine congrArg (fun t => -(Ideal.div t ((16384 : ℝ) : EReal))) (Finset.sum_congr rfl fun b _ => ?_)
  rw [posPart_apply, negPart_apply]
  refine congrArg₂ (· + ·) ?_ ?_
  · unfold posScore dot
    refine congrArg logSig (Finset.sum_congr rfl fun d _ => ?_)
    rw [takeRows_apply a3 a0 h0, takeRows_apply a4 a1 h1]
  · refine Finset.sum_congr rfl fun k _ => ?_
    unfold negScore dot
    refine congrArg (fun t => logSig (-t)) (Finset.sum_congr rfl fun d _ => ?_)
    rw [takeRows5_apply a4 a2 h2, takeRows_apply a4 a1 h1]

end Cert.ReferenceIdeal.RefValue

end
-- ==== Proof.RefLoss.lean ====
/-
  The reference's run with its result named by the specification: under the input-domain precondition on the
  launch memory, every weakly fair execution of the reference terminates with the result buffer holding the
  loss of the five arguments' launch contents, the arguments unchanged.
-/
import proofs.«218857_g62938450756068_cont_9to1c4b_813_41_alg».proof.Proof.RefRun
import proofs.«218857_g62938450756068_cont_9to1c4b_813_41_alg».proof.Proof.RefSpec

noncomputable section

namespace Cert.ReferenceIdeal.RefValue

open Cert.ReferenceIdeal Idealize.ShloMosaic Idealize.SL.Sem

/-- The run at the ideal instance, the result read as the specification's loss. -/
theorem run_loss (m : (ℓ : Loc nD τ sig) → Buf (Elt Ideal) ℓ) (ρ : Dev nD → PrngReg)
    (hpre : ∀ c : Dev nD, Cert.Pre_input_domain.fn (F := Ideal) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4)) = fun _ => 1#1) :
    θ_run (defs (F := Ideal)) (onTc (τ := τ) (main (F := Ideal))) ⟨m, fun _ => 0, ρ⟩ fun r => ∀ c : Dev nD,
      r.2.mem ((c.tc : Thread nD τ).loc main_v25)
        = (fun _ => Cert.Spec.loss (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono
    (fun _ h c => ⟨(h c).1.trans (refOut_eq_loss _ _ _ _ _ (hpre c)), (h c).2⟩) (run (F := Ideal) m ρ)

end Cert.ReferenceIdeal.RefValue

end
-- ==== Proof.RefAgree.lean ====
/-
  The reference's run from a memory whose five argument arrays are given arrays satisfying the input-domain
  precondition: the result buffer ends holding the specification's loss of those arrays.
-/
import proofs.«218857_g62938450756068_cont_9to1c4b_813_41_alg».proof.Proof.RefLoss

noncomputable section

namespace Cert.ReferenceIdeal.RefValue

open Cert.ReferenceIdeal Idealize.ShloMosaic Idealize.SL.Sem

/-- The run from a memory that agrees with five given arrays on the arguments. -/
theorem run_loss_of_agree (m : (ℓ : Loc nD τ sig) → Buf (Elt Ideal) ℓ) (ρ : Dev nD → PrngReg)
    (b0 b1 : Dev nD → IVec S16384 32) (b2 : Dev nD → IVec S16384x5 32) (b3 b4 : Dev nD → FVec Ideal S1000000x64 .f32)
    (hag : ∀ c : Dev nD, m ((c.tc : Thread nD τ).loc main_arg0) = b0 c ∧ m ((c.tc : Thread nD τ).loc main_arg1) = b1 c ∧ m ((c.tc : Thread nD τ).loc main_arg2) = b2 c
      ∧ m ((c.tc : Thread nD τ).loc main_arg3) = b3 c ∧ m ((c.tc : Thread nD τ).loc main_arg4) = b4 c)
    (hpre : ∀ c : Dev nD, Cert.Pre_input_domain.fn (F := Ideal) (b0 c) (b1 c) (b2 c) (b3 c) (b4 c) = fun _ => 1#1) :
    θ_run (defs (F := Ideal)) (onTc (τ := τ) (main (F := Ideal))) ⟨m, fun _ => 0, ρ⟩ fun r => ∀ c : Dev nD,
      r.2.mem ((c.tc : Thread nD τ).loc main_v25) = (fun _ => Cert.Spec.loss (b0 c) (b1 c) (b2 c) (b3 c) (b4 c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono
    (fun _ h c => ⟨by rw [(h c).1, (hag c).1, (hag c).2.1, (hag c).2.2.1, (hag c).2.2.2.1, (hag c).2.2.2.2], (h c).2⟩)
    (run_loss m ρ fun c => by
      rw [(hag c).1, (hag c).2.1, (hag c).2.2.1, (hag c).2.2.2.1, (hag c).2.2.2.2]
      exact hpre c)

end Cert.ReferenceIdeal.RefValue

end
-- ==== Proof.KernelIdealClaims.lean ====
/-
  The kernel-side claims at the ideal instance, from the kernel program's run. Given that, under "every index
  word names a table row", every weakly fair execution of the program terminates with the result at the loss
  kernel's value of the two partial-product arrays and the five arguments unchanged: the input-domain
  precondition gives "every index word names a table row"; under it that value is the specification's loss of
  the arguments; so the program's frame is the run with the value dropped, and the program and the reference,
  run from memories that agree on the arguments, both end with the specification's loss of those arguments.
-/
import proofs.«218857_g62938450756068_cont_9to1c4b_813_41_alg».proof.Defs
import proofs.«218857_g62938450756068_cont_9to1c4b_813_41_alg».proof.Proof.KernelIdealOut
import proofs.«218857_g62938450756068_cont_9to1c4b_813_41_alg».proof.Proof.KernelValue
import proofs.«218857_g62938450756068_cont_9to1c4b_813_41_alg».proof.Proof.RefAgree
import proofs.«218857_g62938450756068_cont_9to1c4b_813_41_alg».proof.Proof.PreFacts

noncomputable section

namespace Cert.Proof.KernelIdealClaims

open Cert.KernelIdeal Cert.Proof.KernelIdealBase Cert.Proof.KernelIdealOut
open Idealize.ShloMosaic Idealize.ShloMosaic.ValueIdx Idealize.SL.Sem

/-! ## The precondition names table rows -/

section AnyInstance
variable {F : FTy → Type} [FloatOps F] (m : (ℓ : Loc nD τ sig) → Buf (Elt F) ℓ)

/-- Under the input-domain precondition every context word and every negative word names a table row. -/
theorem preU_of_fn
    (h : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    TileU.PreOKU m := fun d =>
  ⟨fun b => (Cert.PreFacts.index_lt _ _ _ _ _ (h d)).2.1 (ix1 b), fun b k => (Cert.PreFacts.index_lt _ _ _ _ _ (h d)).2.2 (ix2 b k)⟩

/-- Under the input-domain precondition every centre word names a table row. -/
theorem preV_of_fn
    (h : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    TileVDefs.PreOKV m := fun d b => (Cert.PreFacts.index_lt _ _ _ _ _ (h d)).1 (ix1 b)

end AnyInstance

variable (m : (ℓ : Loc nD τ sig) → Buf (Elt Ideal) ℓ)

theorem preU_of_pre (hpre : Cert.Pre_KernelIdeal m) : TileU.PreOKU m := preU_of_fn m hpre
theorem preV_of_pre (hpre : Cert.Pre_KernelIdeal m) : TileVDefs.PreOKV m := preV_of_fn m hpre

/-! ## The result is the loss -/

/-- Under the precondition the program's result — the loss kernel's one word read as a scalar — is the
    specification's loss of the five arguments. -/
theorem outF_eq_loss (hpre : Cert.Pre_KernelIdeal m) (c : Dev nD) :
    outF (F := Ideal) m c
      = fun _ => Cert.Spec.loss (m (centerLoc c)) (m (ctxLoc c)) (m (negLoc c)) (m (evLoc c)) (m (euLoc c)) := by
  funext j
  exact Cert.Proof.KernelValue.kernel_value_eq_loss m c (hpre c)

/-! ## The two claims, from the run -/

/-- The kernel program's frame: its run with the result's value dropped. -/
theorem frame_pi_of_run
    (hrun : ∀ (m : (ℓ : Loc nD τ sig) → Buf (Elt Ideal) ℓ) (ρ : Dev nD → PrngReg), TileU.PreOKU m → TileVDefs.PreOKV m →
      θ_run (Cert.KernelIdeal.defs (F := Ideal)) (Cert.KernelIdeal.threads (F := Ideal)) ⟨m, fun _ => 0, ρ⟩ (QC m)) :
    Cert.frame_KernelIdeal := fun m g hp =>
  (θ_run (Cert.KernelIdeal.defs (F := Ideal)) _ _).mono (fun _ h c => (h c).2) (hrun m g (preU_of_pre m hp) (preV_of_pre m hp))

/-- The kernel program and the reference, from memories that agree on the arguments, both end with the
    specification's loss of those arguments and with their arguments unchanged. -/
theorem algebraic_of_run
    (hrun : ∀ (m : (ℓ : Loc nD τ sig) → Buf (Elt Ideal) ℓ) (ρ : Dev nD → PrngReg), TileU.PreOKU m → TileVDefs.PreOKV m →
      θ_run (Cert.KernelIdeal.defs (F := Ideal)) (Cert.KernelIdeal.threads (F := Ideal)) ⟨m, fun _ => 0, ρ⟩ (QC m)) :
    Cert.algebraic_KernelIdeal_ReferenceIdeal := fun m g m' g' hp hagree =>
  ⟨fun c => fun _ => Cert.Spec.loss (m (centerLoc c)) (m (ctxLoc c)) (m (negLoc c)) (m (evLoc c)) (m (euLoc c)),
    (θ_run (Cert.KernelIdeal.defs (F := Ideal)) _ _).mono
      (fun _ h c => ⟨(h c).1.trans (outF_eq_loss m hp c), (h c).2⟩) (hrun m g (preU_of_pre m hp) (preV_of_pre m hp)),
    Cert.ReferenceIdeal.RefValue.run_loss_of_agree m' g'
      (fun c => m ((c.tc : Thread nD τ).loc main_arg0)) (fun c => m ((c.tc : Thread nD τ).loc main_arg1)) (fun c => m ((c.tc : Thread nD τ).loc main_arg2))
      (fun c => m ((c.tc : Thread nD τ).loc main_arg3)) (fun c => m ((c.tc : Thread nD τ).loc main_arg4)) hagree hp⟩

end Cert.Proof.KernelIdealClaims

end
-- ==== Proof.KernelBase.lean ====
/-
  The program as the launch theorem sees it, and the names every later module shares: the SparseCore
  configuration and its side conditions, the body table, the ghost state (the handshakes' rounds beside the
  transfers' counters: a tile's copies complete on its own semaphores and no tile signals another, so no
  schedule of the kernels' own is needed), and the arrays' locations on a device.

  The batch is 16384 elements, dealt to the 32 vector subcores in slices of 512: subcore `s` of SparseCore `c`
  works on elements `[512·(2s + c), 512·(2s + c) + 512)`.
-/
import proofs.«218857_g62938450756068_cont_9to1c4b_813_41_alg».proof.Kernel
import proofs.«218857_g62938450756068_cont_9to1c4b_813_41_alg».proof.Proof.Gen.Kernel
import proofs.«218857_g62938450756068_cont_9to1c4b_813_41_alg».proof.Proof.Gen.Kernel.Skeleton
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic

noncomputable section

namespace Cert.Proof.KernelBase

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 1) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_eq (q : Fin 2) : (K (F := F)).nCore q = 2 := by fin_cases q <;> rfl
theorem nSub_eq (q : Fin 2) : (K (F := F)).nSub q = 16 := by fin_cases q <;> rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The handshakes' rounds; the TensorCore pipeline's staging cells' rounds; the transfers' counters (found by
    instance in the right factor). -/
abbrev UH : Type := URounds (GSem nD τ sig) ℕ
abbrev UP : Type := URounds (GSem nD τ sig) Unit
abbrev UU : Type := UH × (UP × Counters)

abbrev EH : Emb UH (MT nD τ sig (HIx 2) (Elt F) ℕ UU ℕ) := embL
def EP : Emb UP (MT nD τ sig (HIx 2) (Elt F) ℕ UU ℕ) :=
  ((Emb.inl : Emb UP (UP × Counters)).trans (Emb.inr : Emb (UP × Counters) UU)).trans
    (uEmb (nD := nD) (sig := sig) (Ix := HIx 2) (Val := Elt F) (Name := ℕ) (U := UU) (Lvl := ℕ)).toEmb
instance EP_landsIn : (EP : Emb UP (MT nD τ sig (HIx 2) (Elt F) ℕ UU ℕ)).LandsIn (upEmb : UEmb _ (MT nD τ sig (HIx 2) (Elt F) ℕ UU ℕ)) := by
  unfold EP; infer_instance

/-! ## The arrays -/

/-- The three index arrays, the two tables, the reshaped negatives, and the kernels' results, on device `d`. -/
abbrev centerLoc (d : Dev nD) : Loc nD τ sig := (SparseCore.T d).loc main_arg0
abbrev ctxLoc (d : Dev nD) : Loc nD τ sig := (SparseCore.T d).loc main_arg1
abbrev negLoc (d : Dev nD) : Loc nD τ sig := (SparseCore.T d).loc main_arg2
abbrev evLoc (d : Dev nD) : Loc nD τ sig := (SparseCore.T d).loc main_arg3
abbrev euLoc (d : Dev nD) : Loc nD τ sig := (SparseCore.T d).loc main_arg4
abbrev negFlatLoc (d : Dev nD) : Loc nD τ sig := (SparseCore.T d).loc main_v0
abbrev pnegLoc (d : Dev nD) : Loc nD τ sig := (SparseCore.T d).loc main_v1_0
abbrev urowsLoc (d : Dev nD) : Loc nD τ sig := (SparseCore.T d).loc main_v1_1
abbrev pposLoc (d : Dev nD) : Loc nD τ sig := (SparseCore.T d).loc main_v2

/-- The batch slice a vector subcore works on: subcore `s` of SparseCore `c` is worker `2s + c`. -/
def wid (c : Fin 2) (s : Fin 16) : Fin 32 := ⟨2 * s.val + c.val, by omega⟩

end Cert.Proof.KernelBase

end
-- ==== Proof.KTileUDefs.lean ====
/-
  The first SparseCore kernel on one vector subcore: what the subcore is handed and what it hands back.

  Subcore s of SparseCore c is worker w = 2s + c and works on batch elements [512w, 512w + 512). It reads its
  512 context words and its 2560 negative words (the negatives flattened: element 5b + k is the k-th negative
  of batch element b), reads rows of the table eu, and writes (i) the rows eu[ctx b] for its batch elements into
  rows [512w, 512w + 512) of a 16384 x 64 array, a pure copy, and (ii) for every batch element b, negative k
  and lane l < 16 the number
      0 - (((n0 u0 + n1 u1) + n2 u2) + n3 u3),   n_t = eu[neg b k][16 t + l],  u_t = eu[ctx b][16 t + l],
  at position (5b + k) 16 + l of a flat array of 1310720 numbers: sixteen partial sums of the inner product
  of the two rows, negated. The row an index word names is the word read unsigned, reduced mod 1000000 (the
  word itself when it is below 1000000).
-/
import proofs.«218857_g62938450756068_cont_9to1c4b_813_41_alg».proof.Proof.KernelBase
import Idealize.ShloMosaic.Lib.ValueIdx

noncomputable section

namespace Cert.Proof.KTileU

open Cert.Kernel Cert.Kernel.Gen Cert.Proof.KernelBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## The subcore and its worker number -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- Worker 2s + c of the subcore at grid coordinates (c, s). -/
def wL (L : grid0.Coords) : Fin 32 := wid (Fin.cast bound_zero (L 0)) (Fin.cast bound_one (L 1))
theorem wL_val (L : grid0.Coords) : (wL L).val = 2 * (L 1).val + (L 0).val := rfl

/-! ## The four slices, as parts of the arrays cut in 32 along the leading axis -/

theorem hdivCtx : 32 ∣ S16384.size 0 := ⟨512, rfl⟩
theorem hdivNeg : 32 ∣ S81920.size 0 := ⟨2560, rfl⟩
theorem hdivRows : 32 ∣ S16384x64.size 0 := ⟨512, rfl⟩
theorem hdivOut : 32 ∣ S1310720.size 0 := ⟨40960, rfl⟩

/-- Context words [512w, 512w + 512). -/
abbrev ctxRect (w : Fin 32) : Rect S16384 := Rect.part (s := S16384) (a₀ := 0) hdivCtx w
abbrev ctxSlice (w : Fin 32) : Finset S16384.Idx := (ctxRect w).set
/-- Flattened negative words [2560w, 2560w + 2560). -/
abbrev negRect (w : Fin 32) : Rect S81920 := Rect.part (s := S81920) (a₀ := 0) hdivNeg w
abbrev negSlice (w : Fin 32) : Finset S81920.Idx := (negRect w).set
/-- Rows [512w, 512w + 512) of the copied context rows, all 64 columns. -/
abbrev urowsRect (w : Fin 32) : Rect S16384x64 := Rect.part (s := S16384x64) (a₀ := 0) hdivRows w
abbrev urowsSlice (w : Fin 32) : Finset S16384x64.Idx := (urowsRect w).set
/-- Partial products [40960w, 40960w + 40960). -/
abbrev pnegRect (w : Fin 32) : Rect S1310720 := Rect.part (s := S1310720) (a₀ := 0) hdivOut w
abbrev pnegSlice (w : Fin 32) : Finset S1310720.Idx := (pnegRect w).set

/-! ### The same slices as the program cuts them -/

section Spelling

variable (L : grid0.Coords)

abbrev ctxRectK : Rect S16384 := Rect.unit (s := S16384) (k0_off1 L) S512.size (k0_off1_inb L)
abbrev negRectK : Rect S81920 := Rect.unit (s := S81920) (k0_off2 L) S2560.size (k0_off2_inb L)
abbrev pnegRectK : Rect S1310720 := Rect.unit (s := S1310720) (k0_off1884 L) S40960.size (k0_off1884_inb L)

theorem ctxRectK_eq : ctxRectK L = ctxRect (wL L) := by
  unfold ctxRectK ctxRect Rect.part Rect.block
  congr 1 <;> funext a
  · rw [k0_off1_eq]
    match a with
    | 0 => simp [Shape.partIx, Shape.partSize, wL_val]; omega
  · match a with
    | 0 => simp [Shape.partSize]
theorem negRectK_eq : negRectK L = negRect (wL L) := by
  unfold negRectK negRect Rect.part Rect.block
  congr 1 <;> funext a
  · rw [k0_off2_eq]
    match a with
    | 0 => simp [Shape.partIx, Shape.partSize, wL_val]; omega
  · match a with
    | 0 => simp [Shape.partSize]
theorem pnegRectK_eq : pnegRectK L = pnegRect (wL L) := by
  unfold pnegRectK pnegRect Rect.part Rect.block
  congr 1 <;> funext a
  · rw [k0_off1884_eq]
    match a with
    | 0 => simp [Shape.partIx, Shape.partSize, wL_val]; omega
  · match a with
    | 0 => simp [Shape.partSize]

/-- The three slices as memrefs of the subcore, in the program's spelling. -/
abbrev ctxK : Memref sig .scVector .hbm S512 .i32 :=
  (Memref.whole main_arg1_scv : Memref sig .scVector .hbm S16384 .i32).slice (ctxRectK L) (fun _ => rfl)
abbrev negK : Memref sig .scVector .hbm S2560 .i32 :=
  (Memref.whole main_v0_scv : Memref sig .scVector .hbm S81920 .i32).slice (negRectK L) (fun _ => rfl)
abbrev pnegK : Memref sig .scVector .hbm S40960 .f32 :=
  (Memref.whole main_v1_0_scv : Memref sig .scVector .hbm S1310720 .f32).slice (pnegRectK L) (fun _ => rfl)

theorem set_ctxK : (ctxK L).view.set = ctxSlice (wL L) := by
  show ((Memref.whole main_arg1_scv : Memref sig .scVector .hbm S16384 .i32).view.slice (ctxRectK L)).set = (ctxRect (wL L)).set
  rw [ctxRectK_eq]; exact View.set_slice_whole _ _
theorem set_negK : (negK L).view.set = negSlice (wL L) := by
  show ((Memref.whole main_v0_scv : Memref sig .scVector .hbm S81920 .i32).view.slice (negRectK L)).set = (negRect (wL L)).set
  rw [negRectK_eq]; exact View.set_slice_whole _ _
theorem set_pnegK : (pnegK L).view.set = pnegSlice (wL L) := by
  show ((Memref.whole main_v1_0_scv : Memref sig .scVector .hbm S1310720 .f32).view.slice (pnegRectK L)).set = (pnegRect (wL L)).set
  rw [pnegRectK_eq]; exact View.set_slice_whole _ _

/-- Row block r < 8 of the subcore's 512 rows: rows [512w + 64r, 512w + 64r + 64). -/
abbrev urowsRectK (r : Fin 8) : Rect S16384x64 :=
  Rect.unit (s := S16384x64) (k0_off238 L (BitVec.ofNat 32 (64 * r.val))) S64x64.size (k0_off238_inb L r)
abbrev urowsK (r : Fin 8) : Memref sig .scVector .hbm S64x64 .f32 :=
  (Memref.whole main_v1_1_scv : Memref sig .scVector .hbm S16384x64 .f32).slice (urowsRectK L r) (fun _ => rfl)
theorem mem_urowsRectK (r : Fin 8) (y : S16384x64.Idx) :
    y ∈ (urowsRectK L r).set ↔ 512 * (wL L).val + 64 * r.val ≤ (y 0).val ∧ (y 0).val < 512 * (wL L).val + 64 * r.val + 64 := by
  have h1 : (y 1).val < 64 := (y 1).isLt
  rw [Rect.mem_set_unit, k0_off238_eq, wL_val]
  constructor
  · intro H; have a0 := H 0
    simp only [Matrix.cons_val_zero] at a0
    have : S64x64.size 0 = 64 := rfl
    omega
  · intro H a
    match a with
    | 0 => simp only [Matrix.cons_val_zero]; have : S64x64.size 0 = 64 := rfl; omega
    | 1 => simp only [Matrix.cons_val_one, Matrix.cons_val_zero]; have : S64x64.size 1 = 64 := rfl; omega

end Spelling

/-! ## The values -/

variable (m : (ℓ : Loc nD τ sig) → Buf (Elt F) ℓ)

/-- The table row the context word of batch element b names. -/
def ctxRow (d : Dev nD) (b : Fin 16384) : Fin 1000000 :=
  ⟨(m (ctxLoc d) (ix1 b) : BitVec 32).toNat % 1000000, Nat.mod_lt _ (by decide)⟩
/-- The table row the k-th negative word of batch element b names. -/
def negRow (d : Dev nD) (b : Fin 16384) (k : Fin 5) : Fin 1000000 :=
  ⟨(m (negLoc d) (ix2 b k) : BitVec 32).toNat % 1000000, Nat.mod_lt _ (by decide)⟩

/-- The copied context rows: row b is row ctx b of the table. -/
def urowsF (d : Dev nD) : Buf (Elt F) (urowsLoc d) :=
  fun y : S16384x64.Idx => (m (euLoc d) : S1000000x64.Idx → F .f32) (ix2 (ctxRow m d (y 0)) (y 1))

variable [FloatOps F]

/-- Lane l of piece t (columns [16t, 16t + 16)) of a table row. -/
def piece (d : Dev nD) (r : Fin 1000000) (t : Fin 4) (l : Fin 16) : F .f32 :=
  (m (euLoc d) : S1000000x64.Idx → F .f32) (ix2 r ⟨16 * t.val + l.val, by omega⟩)

/-- One partial product: 0 - (((n0 u0 + n1 u1) + n2 u2) + n3 u3) at a lane, n the negative's row, u the context's. -/
def partial1 (d : Dev nD) (b : Fin 16384) (k : Fin 5) (l : Fin 16) : F .f32 :=
  FloatOps.subf (Scalar.ofBits .f32 0x00000000#32)
    (FloatOps.addf (FloatOps.addf (FloatOps.addf
      (FloatOps.mulf (piece m d (negRow m d b k) 0 l) (piece m d (ctxRow m d b) 0 l))
      (FloatOps.mulf (piece m d (negRow m d b k) 1 l) (piece m d (ctxRow m d b) 1 l)))
      (FloatOps.mulf (piece m d (negRow m d b k) 2 l) (piece m d (ctxRow m d b) 2 l)))
      (FloatOps.mulf (piece m d (negRow m d b k) 3 l) (piece m d (ctxRow m d b) 3 l)))

/-- The partial products: position (5b + k) 16 + l holds partial product (b, k, l). -/
def pnegF (d : Dev nD) : Buf (Elt F) (pnegLoc d) :=
  fun p : S1310720.Idx =>
    partial1 m d ⟨(p 0).val / 80, by have h : (p 0).val < 1310720 := (p 0).isLt; omega⟩ ⟨(p 0).val / 16 % 5, Nat.mod_lt _ (by decide)⟩
      ⟨(p 0).val % 16, Nat.mod_lt _ (by decide)⟩

/-! ## What the subcore is handed and hands back -/

/-- The reshaped negatives hold, at 5b + k, the k-th negative word of batch element b. -/
def IsFlat (d : Dev nD) (NF : Buf (Elt F) (negFlatLoc d)) : Prop :=
  ∀ (b : Fin 16384) (k : Fin 5), (NF : S81920.Idx → BitVec 32) (ix1 ⟨5 * b.val + k.val, by omega⟩) = m (negLoc d) (ix2 b k)

/-- Handed: the subcore's context and negative words, a read share of the whole table, and its slices of the
    two results at whatever they hold. -/
def goU (d : Dev nD) (L : grid0.Coords) (NF : Buf (Elt F) (negFlatLoc d)) (fp : Buf (Elt F) (pnegLoc d)) (fu : Buf (Elt F) (urowsLoc d)) : sProp 𝕄 :=
  iprop((ctxLoc d ↦[ctxSlice (wL L)]{fullShare} m (ctxLoc d)) ∗ (negFlatLoc d ↦[negSlice (wL L)]{fullShare} NF)
    ∗ (euLoc d ↦{Transfers.shareTok fullShare 32 (wL L)} m (euLoc d))
    ∗ (pnegLoc d ↦[pnegSlice (wL L)]{fullShare} fp) ∗ (urowsLoc d ↦[urowsSlice (wL L)]{fullShare} fu))

/-- Handed back: the same, the two result slices at the partial products and the copied rows. -/
def tdU (d : Dev nD) (L : grid0.Coords) (NF : Buf (Elt F) (negFlatLoc d)) : sProp 𝕄 :=
  goU m d L NF (pnegF m d) (urowsF m d)

/-- Every index word names a table row. -/
def PreOKU : Prop :=
  ∀ d : Dev nD, (∀ b : Fin 16384, (m (ctxLoc d) (ix1 b) : BitVec 32).toNat < 1000000)
    ∧ (∀ (b : Fin 16384) (k : Fin 5), (m (negLoc d) (ix2 b k) : BitVec 32).toNat < 1000000)

end Cert.Proof.KTileU

end
-- ==== Proof.KTileVDefs.lean ====
/-
  The second SparseCore kernel (the positive scores' partial products), as one vector subcore sees it: the
  slices of the arrays it works on, and the value it leaves.

  Worker `w = 2s + c` (vector subcore `s` of SparseCore `c`) owns batch elements `[512w, 512w + 512)`. It reads
  that slice of the centre words, those rows of the context rows the first kernel left, and rows of the whole
  embedding table `ev` named by the centre words; it writes entries `[8192w, 8192w + 8192)` of the partial
  products: entry `16b + l` is `((v₀·u₀ + v₁·u₁) + v₂·u₂) + v₃·u₃` with `v_t = ev[center b][16t + l]` and
  `u_t = urows[b][16t + l]` — lane `l` of the four 16-lane groups of the two rows, multiplied and summed in that
  order.
-/
import proofs.«218857_g62938450756068_cont_9to1c4b_813_41_alg».proof.Proof.KernelBase
import Idealize.ShloMosaic.Lib.ValueIdx
import Idealize.ShloMosaic.Lib.Transfers

noncomputable section

namespace Cert.Proof.KTileVDefs

open Cert.Kernel Cert.Kernel.Gen Cert.Proof.KernelBase

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## The subcore and its worker number -/

abbrev cV (L : grid1.Coords) : Fin τ.nSC := (L 0).castLE hcore1
abbrev jV (L : grid1.Coords) : Fin τ.nSub := (L 1).castLE hsub1

theorem bound_zero : grid1.bound 0 = 2 := rfl
theorem bound_one : grid1.bound 1 = 16 := rfl

/-- The worker number of the subcore at grid coordinates `L`: `2 · (L 1) + (L 0)`. -/
def wL (L : grid1.Coords) : Fin 32 := wid (Fin.cast bound_zero (L 0)) (Fin.cast bound_one (L 1))

theorem wL_val (L : grid1.Coords) : (wL L).val = 2 * (L 1).val + (L 0).val := rfl

/-! ## The slices, as parts of the arrays' leading axis -/

theorem hdiv_center : 32 ∣ S16384.size 0 := ⟨512, rfl⟩
theorem hdiv_urows : 32 ∣ S16384x64.size 0 := ⟨512, rfl⟩
theorem hdiv_ppos : 32 ∣ S262144.size 0 := ⟨8192, rfl⟩

/-- Worker `w`'s centre words: entries `[512w, 512w + 512)`. -/
abbrev centerRect (w : Fin 32) : Rect S16384 := Rect.part (s := S16384) (a₀ := 0) hdiv_center w
abbrev centerSlice (w : Fin 32) : Finset S16384.Idx := (centerRect w).set
/-- Worker `w`'s context rows: rows `[512w, 512w + 512)`, all 64 columns. -/
abbrev urowsRect (w : Fin 32) : Rect S16384x64 := Rect.part (s := S16384x64) (a₀ := 0) hdiv_urows w
abbrev urowsSlice (w : Fin 32) : Finset S16384x64.Idx := (urowsRect w).set
/-- Worker `w`'s partial products: entries `[8192w, 8192w + 8192)`. -/
abbrev pposRect (w : Fin 32) : Rect S262144 := Rect.part (s := S262144) (a₀ := 0) hdiv_ppos w
abbrev pposSlice (w : Fin 32) : Finset S262144.Idx := (pposRect w).set

/-! ## The value -/

variable (m : (ℓ : Loc nD τ sig) → Buf (Elt F) ℓ)

/-- The table row the centre word of batch element `b` names (the word read unsigned, reduced mod the table's
    extent so that the function is total; where the word is below 1000000 it is the word itself). -/
def centerRow (d : Dev nD) (b : Fin 16384) : Fin 1000000 :=
  ⟨((m (centerLoc d) : S16384.Idx → BitVec 32) (ix1 b)).toNat % 1000000, Nat.mod_lt _ (by decide)⟩

/-- Entry `16t + l` of a 64-entry row. -/
abbrev lane (t : Fin 4) (l : Fin 16) : Fin 64 := ⟨16 * t.val + l.val, by omega⟩

variable [FloatOps F]

/-- Lane `l` of batch element `b`'s four partial products, summed in the kernel's order. -/
def pposAt (d : Dev nD) (U : Buf (Elt F) (urowsLoc d)) (b : Fin 16384) (l : Fin 16) : F .f32 :=
  let v : Fin 4 → F .f32 := fun t => (m (evLoc d) : S1000000x64.Idx → F .f32) (ix2 (centerRow m d b) (lane t l))
  let u : Fin 4 → F .f32 := fun t => (U : S16384x64.Idx → F .f32) (ix2 b (lane t l))
  FloatOps.addf (FloatOps.addf (FloatOps.addf (FloatOps.mulf (v 0) (u 0)) (FloatOps.mulf (v 1) (u 1))) (FloatOps.mulf (v 2) (u 2))) (FloatOps.mulf (v 3) (u 3))

/-- The partial products as ONE function of the arguments and the context rows: entry `16b + l` is lane `l` of
    batch element `b`. -/
def pposF (d : Dev nD) (U : Buf (Elt F) (urowsLoc d)) : Buf (Elt F) (pposLoc d) :=
  fun y : S262144.Idx =>
    pposAt m d U ⟨(y 0).val / 16, by have h : (y 0).val < 262144 := (y 0).isLt; show (y 0).val / 16 < 16384; omega⟩ ⟨(y 0).val % 16, Nat.mod_lt _ (by decide)⟩

/-! ## What a subcore is given and what it hands back -/

/-- Given: its slice of the centre words, a read share of the whole table `ev` (one of 32 tokens of the full
    share), its rows of the context rows, and its slice of the partial products at the launch contents. -/
def goV (d : Dev nD) (L : grid1.Coords) (U : Buf (Elt F) (urowsLoc d)) (f0 : Buf (Elt F) (pposLoc d)) : sProp 𝕄 :=
  iprop((centerLoc d ↦[centerSlice (wL L)]{fullShare} m (centerLoc d))
    ∗ (evLoc d ↦{Transfers.shareTok fullShare 32 (wL L)} m (evLoc d))
    ∗ (urowsLoc d ↦[urowsSlice (wL L)]{fullShare} U)
    ∗ (pposLoc d ↦[pposSlice (wL L)]{fullShare} f0))

/-- Handed back: the same, the slice of the partial products at its value. -/
def tdV (d : Dev nD) (L : grid1.Coords) (U : Buf (Elt F) (urowsLoc d)) : sProp 𝕄 :=
  iprop((centerLoc d ↦[centerSlice (wL L)]{fullShare} m (centerLoc d))
    ∗ (evLoc d ↦{Transfers.shareTok fullShare 32 (wL L)} m (evLoc d))
    ∗ (urowsLoc d ↦[urowsSlice (wL L)]{fullShare} U)
    ∗ (pposLoc d ↦[pposSlice (wL L)]{fullShare} pposF m d U))

/-- Every centre word names a table row. -/
def PreOKV : Prop := ∀ (d : Dev nD) (b : Fin 16384), ((m (centerLoc d) : S16384.Idx → BitVec 32) (ix1 b)).toNat < 1000000

end Cert.Proof.KTileVDefs

end
-- ==== Proof.KernelPay.lean ====
/-
  What the two SparseCore calls hand over and take back, and the two obligations of the launch theorem that are
  bookkeeping: how a SparseCore's share of a call splits among its sixteen vector subcores, and that a vector
  subcore's task, once its body is proved at a symbolic subcore, is the obligation the theorem asks.

  Call 0 (the context and negative rows): every vector subcore is given its slice of the context words and of the
  flattened negative words, a read share of the table `eu`, and its slices of the two results; it hands the same
  back with the result slices at their values. Call 1 (the centre rows): its slice of the centre words, a read
  share of the table `ev`, its rows of the context rows call 0 left, and its slice of the result.
  A SparseCore's share is the sixteen subcores' shares side by side, so the split is the identity.
-/
import proofs.«218857_g62938450756068_cont_9to1c4b_813_41_alg».proof.Proof.KernelBase
import proofs.«218857_g62938450756068_cont_9to1c4b_813_41_alg».proof.Proof.KTileUDefs
import proofs.«218857_g62938450756068_cont_9to1c4b_813_41_alg».proof.Proof.KTileVDefs

noncomputable section

namespace Cert.Proof.KernelPay

open Cert.Kernel Cert.Kernel.Gen Cert.Proof.KernelBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable (m : (ℓ : Loc nD τ sig) → Buf (Elt F) ℓ) (ρ : Dev nD → PrngReg)

/-! ## Grid coordinates from (SparseCore, subcore) -/

def coordsU (c : Fin (grid0.bound 0)) (s : Fin (grid0.bound 1)) : grid0.Coords :=
  fun | 0 => c | 1 => s | ⟨_ + 2, h⟩ => absurd h (Nat.not_lt.2 (Nat.le_add_left _ _))
def coordsV (c : Fin (grid1.bound 0)) (s : Fin (grid1.bound 1)) : grid1.Coords :=
  fun | 0 => c | 1 => s | ⟨_ + 2, h⟩ => absurd h (Nat.not_lt.2 (Nat.le_add_left _ _))

theorem nCore0 : (K (F := F)).nCore 0 = grid0.bound 0 := rfl
theorem nSub0 : (K (F := F)).nSub 0 = grid0.bound 1 := rfl
theorem nCore1 : (K (F := F)).nCore 1 = grid1.bound 0 := rfl
theorem nSub1 : (K (F := F)).nSub 1 = grid1.bound 1 := rfl

/-! ## The flattened negatives -/

/-- What the host's reshape leaves in the flattened negatives: entry `5b + k` is word `(b, k)`. -/
def negFlatF (d : Dev nD) : Buf (Elt F) (negFlatLoc d) :=
  shapeCast S81920 (m (negLoc d) : IVec S16384x5 32) shapeCasts_S16384x5_S81920

variable [FloatOps F]

/-! ## What the handshakes carry -/

/-- Call 0's share for subcore `i` of SparseCore `c`, the result slices at `fp`, `fu`; call 1's, the context rows at
    what call 0 left and the result slice at `f0`. -/
abbrev goAt0 (d : Dev nD) (c : Fin ((K (F := F)).nCore 0)) (i : Fin ((K (F := F)).nSub 0)) : sProp 𝕄 :=
  KTileU.goU m d (coordsU (Fin.cast nCore0 c) (Fin.cast nSub0 i)) (negFlatF m d) (m (pnegLoc d)) (m (urowsLoc d))
abbrev tdAt0 (d : Dev nD) (c : Fin ((K (F := F)).nCore 0)) (i : Fin ((K (F := F)).nSub 0)) : sProp 𝕄 :=
  KTileU.tdU m d (coordsU (Fin.cast nCore0 c) (Fin.cast nSub0 i)) (negFlatF m d)
abbrev goAt1 (d : Dev nD) (c : Fin ((K (F := F)).nCore 1)) (i : Fin ((K (F := F)).nSub 1)) : sProp 𝕄 :=
  KTileVDefs.goV m d (coordsV (Fin.cast nCore1 c) (Fin.cast nSub1 i)) (KTileU.urowsF m d) (m (pposLoc d))
abbrev tdAt1 (d : Dev nD) (c : Fin ((K (F := F)).nCore 1)) (i : Fin ((K (F := F)).nSub 1)) : sProp 𝕄 :=
  KTileVDefs.tdV m d (coordsV (Fin.cast nCore1 c) (Fin.cast nSub1 i)) (KTileU.urowsF m d)

def P : (K (F := F)).Pay (nD := nD) (Val := Elt F) (Name := ℕ) (U := UU) where
  st := fun q d c => match q with
    | 0 => bigSep Finset.univ fun i => goAt0 m d c i
    | 1 => bigSep Finset.univ fun i => goAt1 m d c i
  dn := fun q d c => match q with
    | 0 => bigSep Finset.univ fun i => tdAt0 m d c i
    | 1 => bigSep Finset.univ fun i => tdAt1 m d c i
  go := fun q d c i => match q with
    | 0 => goAt0 m d c i
    | 1 => goAt1 m d c i
  td := fun q d c i => match q with
    | 0 => tdAt0 m d c i
    | 1 => tdAt1 m d c i
  x := fun _ _ => iprop(emp)

instance P_storable : (P (F := F) m).IsStorable where
  st q d c := match q with
    | 0 => by unfold P; dsimp only [goAt0, KTileU.goU]; infer_instance
    | 1 => by unfold P; dsimp only [goAt1, KTileVDefs.goV]; infer_instance
  dn q d c := match q with
    | 0 => by unfold P; dsimp only [tdAt0, KTileU.tdU, KTileU.goU]; infer_instance
    | 1 => by unfold P; dsimp only [tdAt1, KTileVDefs.tdV]; infer_instance
  go q d c i := match q with
    | 0 => by unfold P; dsimp only [goAt0, KTileU.goU]; infer_instance
    | 1 => by unfold P; dsimp only [goAt1, KTileVDefs.goV]; infer_instance
  td q d c i := match q with
    | 0 => by unfold P; dsimp only [tdAt0, KTileU.tdU, KTileU.goU]; infer_instance
    | 1 => by unfold P; dsimp only [tdAt1, KTileVDefs.tdV]; infer_instance

/-! ## A SparseCore's share is its subcores' shares -/

theorem vecSplit (q : Fin 2) : (K (F := F)).VecSplit' (P m) q := by
  intro d c
  match q with
  | 0 =>
    show (bigSep Finset.univ fun i => goAt0 m d c i)
      ⊢ |={Set.univ}=> iprop((bigSep Finset.univ fun i => goAt0 m d c i) ∗ ((bigSep Finset.univ fun i => tdAt0 m d c i) -∗ bigSep Finset.univ fun i => tdAt0 m d c i))
    iintro H; imodintro
    isplitl [H]; · iexact H
    iintro H'; iexact H'
  | 1 =>
    show (bigSep Finset.univ fun i => goAt1 m d c i)
      ⊢ |={Set.univ}=> iprop((bigSep Finset.univ fun i => goAt1 m d c i) ∗ ((bigSep Finset.univ fun i => tdAt1 m d c i) -∗ bigSep Finset.univ fun i => tdAt1 m d c i))
    iintro H; imodintro
    isplitl [H]; · iexact H
    iintro H'; iexact H'

end Cert.Proof.KernelPay

end
-- ==== Proof.KernelOut.lean ====
/-
  What the kernel program leaves: the two partial-product arrays read as rows of 128, the loss kernel's word of
  them, and that word read as the scalar result; and the post of the program's run — the result at that value,
  the five arguments as they were.
-/
import proofs.«218857_g62938450756068_cont_9to1c4b_813_41_alg».proof.Proof.KernelPay

noncomputable section

namespace Cert.Proof.KernelOut

open Cert.Kernel Cert.Kernel.Gen Cert.Proof.KernelBase Cert.Proof.KernelPay

open Idealize.ShloMosaic
open Idealize.ShloMosaic.SparseCore (S V T)
open Idealize.SL.Sem

variable {F : FTy → Type} [FloatOps F]

variable (m : (ℓ : Loc nD τ sig) → Buf (Elt F) ℓ)

/-- The negative partial products as 10240 rows of 128, and the positive ones as 2048 rows of 128. -/
def pnRows (d : Dev nD) : Vec F S10240x128 .f32 := shapeCast S10240x128 (KTileU.pnegF m d) Shapes1.Facts₀.shapeCasts_S1310720_S10240x128
def ppRows (d : Dev nD) : Vec F S2048x128 .f32 :=
  shapeCast S2048x128 (KTileVDefs.pposF m d (KTileU.urowsF m d)) Shapes1.Facts₀.shapeCasts_S262144_S2048x128

/-- The loss kernel's one word. -/
def lossWord (d : Dev nD) : Vec F S1x1 .f32 := fun _ => Gen.k2_pay1 (Gen.k2_pay3 (pnRows m d)) (Gen.k2_pay4 (ppRows m d))

/-- The program's result: that word, read as a scalar. -/
def outF (d : Dev nD) : Vec F S_ .f32 := shapeCast S_ (lossWord m d) Shapes1.Facts₀.shapeCasts_S1x1_S_

/-- The post of the kernel program's run: on every device the result is `outF` and the five arguments are unchanged. -/
def QC : PUnit × MemSt nD τ sig (Elt F) → Prop := fun r => ∀ c : Dev nD,
  r.2.mem ((c.tc : Thread nD τ).loc main_v6) = outF m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

end Cert.Proof.KernelOut

end
-- ==== Proof.KernelClaims.lean ====
/-
  The kernel program's frame at the word-level instance, from the program's run. Given that, under "every index
  word names a table row", every weakly fair execution of the program terminates with the result at the loss
  kernel's value of the two partial-product arrays and the five arguments unchanged: the input-domain
  precondition gives "every index word names a table row", and the program's frame is the run with the
  result's value dropped.
-/
import proofs.«218857_g62938450756068_cont_9to1c4b_813_41_alg».proof.Defs
import proofs.«218857_g62938450756068_cont_9to1c4b_813_41_alg».proof.Proof.KernelOut
import proofs.«218857_g62938450756068_cont_9to1c4b_813_41_alg».proof.Proof.PreFacts

noncomputable section

namespace Cert.Proof.KernelClaims

open Cert.Kernel Cert.Proof.KernelBase Cert.Proof.KernelOut
open Idealize.ShloMosaic Idealize.ShloMosaic.ValueIdx Idealize.SL.Sem

/-! ## The precondition names table rows -/

section AnyInstance
variable {F : FTy → Type} [FloatOps F] (m : (ℓ : Loc nD τ sig) → Buf (Elt F) ℓ)

/-- Under the input-domain precondition every context word and every negative word names a table row. -/
theorem preU_of_fn
    (h : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    KTileU.PreOKU m := fun d =>
  ⟨fun b => (Cert.PreFacts.index_lt _ _ _ _ _ (h d)).2.1 (ix1 b), fun b k => (Cert.PreFacts.index_lt _ _ _ _ _ (h d)).2.2 (ix2 b k)⟩

/-- Under the input-domain precondition every centre word names a table row. -/
theorem preV_of_fn
    (h : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    KTileVDefs.PreOKV m := fun d b => (Cert.PreFacts.index_lt _ _ _ _ _ (h d)).1 (ix1 b)

end AnyInstance

variable (m : (ℓ : Loc nD τ sig) → Buf (Elt Bits) ℓ)

theorem preU_of_pre (hpre : Cert.Pre_Kernel m) : KTileU.PreOKU m := preU_of_fn m hpre
theorem preV_of_pre (hpre : Cert.Pre_Kernel m) : KTileVDefs.PreOKV m := preV_of_fn m hpre

/-! ## The frame, from the run -/

/-- The kernel program's frame: its run with the result's value dropped. -/
theorem frame_p_of_run
    (hrun : ∀ (m : (ℓ : Loc nD τ sig) → Buf (Elt Bits) ℓ) (ρ : Dev nD → PrngReg), KTileU.PreOKU m → KTileVDefs.PreOKV m →
      θ_run (Cert.Kernel.defs (F := Bits)) (Cert.Kernel.threads (F := Bits)) ⟨m, fun _ => 0, ρ⟩ (QC m)) :
    Cert.frame_Kernel := fun m g hp =>
  (θ_run (Cert.Kernel.defs (F := Bits)) _ _).mono (fun _ h c => (h c).2) (hrun m g (preU_of_pre m hp) (preV_of_pre m hp))

end Cert.Proof.KernelClaims

end
-- ==== Proof.KernelIdealBodies.lean ====
/-
  The two SparseCore kernels as the body table calls them: each kernel's function at a vector subcore's grid
  coordinates, on the whole arrays in high-bandwidth memory, the subcore's own scratch buffers and its DMA
  semaphores. What a proof of one subcore's task is a statement about.
-/
import proofs.«218857_g62938450756068_cont_9to1c4b_813_41_alg».proof.Proof.KernelIdealBase

noncomputable section

namespace Cert.Proof.KernelIdealBodies

open Cert.KernelIdeal Cert.KernelIdeal.Gen

open Idealize.ShloMosaic Idealize.SL.Sem

variable {F : FTy → Type} [FloatOps F]

/-- The first kernel (the context rows and the negative pairs' partial products) at grid coordinates `L`. -/
abbrev bodyU (L : grid0.Coords) : Prog (TpuEff nD τ sig (Elt F) Λ₀ (.scVector ((L 0).castLE hcore0) ((L 1).castLE hsub0))) PUnit :=
  cc0__sc_u_body L (Memref.whole main_arg1_scv) (Memref.isWhole_whole _) (Memref.whole main_v0_scv) (Memref.isWhole_whole _)
    (Memref.whole main_arg4_scv) (Memref.isWhole_whole _) (Memref.whole main_v1_0_scv) (Memref.isWhole_whole _)
    (Memref.whole main_v1_1_scv) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    cc0_scratch5 cc0_scoped0 cc0_scoped1 cc0_scoped2 cc0_scoped3 cc0_scoped4 cc0_scoped5 cc0_scoped6 cc0_scoped7 cc0_scoped8
    cc0_scoped9 cc0_scoped10

/-- The second kernel (the positive pairs' partial products) at grid coordinates `L`. -/
abbrev bodyV (L : grid1.Coords) : Prog (TpuEff nD τ sig (Elt F) Λ₀ (.scVector ((L 0).castLE hcore1) ((L 1).castLE hsub1))) PUnit :=
  cc1__sc_v_body L (Memref.whole main_arg0_scv) (Memref.isWhole_whole _) (Memref.whole main_arg3_scv) (Memref.isWhole_whole _)
    (Memref.whole main_v1_1_scv) (Memref.isWhole_whole _) (Memref.whole main_v2_scv) (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    cc1_scratch4 cc1_scoped0 cc1_scoped1 cc1_scoped2 cc1_scoped3 cc1_scoped4 cc1_scoped5 cc1_scoped6 cc1_scoped7 cc1_scoped8
    cc1_scoped9

end Cert.Proof.KernelIdealBodies

end
-- ==== Proof.KernelIdealObl.lean ====
/-
  The launch theorem's two vector-subcore obligations, each from the proof of one subcore's task at symbolic grid
  coordinates: the body table's row for the kernel's label is the kernel at the subcore's coordinates when the
  grid holds it, the task's operands and results are the subcore's slices at those coordinates, and neither
  kernel owes anything for a protocol of its own.
-/
import proofs.«218857_g62938450756068_cont_9to1c4b_813_41_alg».proof.Proof.KernelIdealPay
import proofs.«218857_g62938450756068_cont_9to1c4b_813_41_alg».proof.Proof.KernelIdealBodies

noncomputable section

namespace Cert.Proof.KernelIdealObl

open Cert.KernelIdeal Cert.KernelIdeal.Gen Cert.Proof.KernelIdealBase Cert.Proof.KernelIdealPay Cert.Proof.KernelIdealBodies

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ)

/-- The body table's row for each kernel's label on a vector subcore: the kernel at the subcore's coordinates when
    the grid holds it. -/
theorem defs₀_vector0 (c : Fin τ.nSC) (s : Fin τ.nSub) :
    defs₀ (F := F) (.scVector c s) 0 () = SparseCore.onTile hcore0 hsub0 (fun c s => bodyU (F := F) (coordsU c s)) ⟨⟩ c s := rfl
theorem defs₀_vector1 (c : Fin τ.nSC) (s : Fin τ.nSub) :
    defs₀ (F := F) (.scVector c s) 1 () = SparseCore.onTile hcore1 hsub1 (fun c s => bodyV (F := F) (coordsV c s)) ⟨⟩ c s := rfl

omit [FloatOps F] in
/-- A task that records only waits at the index of no call meets the launch theorem's bound on its recorded pairs. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The first kernel's obligation, from its task proved at symbolic coordinates. -/
theorem tileObl0
    (hbody : ∀ (d : Dev nD) (L : grid0.Coords) (O : CellTallies nD τ sig (HIx 2)) (W : Waits sig (HIx 2)), (∀ g, O g none = 0) →
      iprop(levAts (K (F := F)).L (K (F := F)).lev ∗ emp ∗ TileU.goU m d L (negFlatF m d) (m (pnegLoc d)) (m (urowsLoc d))
          ∗ scopedBufs (V d (TileU.cV L) (TileU.jV L)) ∗ scopedSems0 (V d (TileU.cV L) (TileU.jV L))
          ∗ owes (V d (TileU.cV L) (TileU.jV L)) O W)
        ⊢ wp frame (wpE (defs₀ (F := F)) 𝒱₀ (V d (TileU.cV L) (TileU.jV L)) none) Set.univ (bodyU (F := F) L)
            fun _ => iprop(TileU.tdU m d L (negFlatF m d) ∗ scopedBufs (V d (TileU.cV L) (TileU.jV L)) ∗ scopedSems0 (V d (TileU.cV L) (TileU.jV L))
              ∗ ∃ W', ⌜∀ p ∈ W', p ∈ W ∨ p.2 = none⌝ ∗ owes (V d (TileU.cV L) (TileU.jV L)) O W')) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (hbody d (coordsU ⟨_, hc.1⟩ ⟨_, hc.2⟩) O W hO).trans (wp_mono frame _ _ fun _ => obl_post)

/-- The second kernel's obligation, from its task proved at symbolic coordinates. -/
theorem tileObl1
    (hbody : ∀ (d : Dev nD) (L : grid1.Coords) (O : CellTallies nD τ sig (HIx 2)) (W : Waits sig (HIx 2)), (∀ g, O g none = 0) →
      iprop(levAts (K (F := F)).L (K (F := F)).lev ∗ emp ∗ TileVDefs.goV m d L (TileU.urowsF m d) (m (pposLoc d))
          ∗ scopedBufs (V d (TileVDefs.cV L) (TileVDefs.jV L)) ∗ scopedSems0 (V d (TileVDefs.cV L) (TileVDefs.jV L))
          ∗ owes (V d (TileVDefs.cV L) (TileVDefs.jV L)) O W)
        ⊢ wp frame (wpE (defs₀ (F := F)) 𝒱₀ (V d (TileVDefs.cV L) (TileVDefs.jV L)) none) Set.univ (bodyV (F := F) L)
            fun _ => iprop(TileVDefs.tdV m d L (TileU.urowsF m d) ∗ scopedBufs (V d (TileVDefs.cV L) (TileVDefs.jV L)) ∗ scopedSems0 (V d (TileVDefs.cV L) (TileVDefs.jV L))
              ∗ ∃ W', ⌜∀ p ∈ W', p ∈ W ∨ p.2 = none⌝ ∗ owes (V d (TileVDefs.cV L) (TileVDefs.jV L)) O W')) :
    (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  exact (hbody d (coordsV ⟨_, hc.1⟩ ⟨_, hc.2⟩) O W hO).trans (wp_mono frame _ _ fun _ => obl_post)

end Cert.Proof.KernelIdealObl

end
-- ==== Proof.Regroup.lean ====
/-
  Thirty-two workers as two SparseCores of sixteen subcores: worker `2s + c` is subcore `s` of SparseCore `c`,
  and a family over the workers, taken all together, is the family over the subcores of each SparseCore, taken
  all together.
-/
import Idealize.SL.BI.BigOp
import Mathlib.Logic.Equiv.Fin.Basic

namespace Cert.Regroup

open Idealize.SL.BI Idealize.SL.RA

/-- Worker `2s + c`. -/
def worker (c : Fin 2) (s : Fin 16) : Fin 32 := ⟨2 * s.val + c.val, by omega⟩

/-- (subcore, SparseCore) pairs are the workers. -/
def pairs : Fin 16 × Fin 2 ≃ Fin 32 where
  toFun x := worker x.2 x.1
  invFun w := (⟨w.val / 2, by omega⟩, ⟨w.val % 2, Nat.mod_lt _ (by decide)⟩)
  left_inv x := by
    obtain ⟨s, c⟩ := x
    apply Prod.ext <;> apply Fin.ext <;> simp only [worker] <;> omega
  right_inv w := by
    apply Fin.ext; simp only [worker]; omega

/-- A family over the thirty-two workers is the family over each SparseCore's sixteen subcores. -/
theorem bigSep_workers {M : Type} [URA M] (Φ : Fin 32 → sProp M) :
    bigSep (Finset.univ : Finset (Fin 32)) Φ
      = bigSep (Finset.univ : Finset (Fin 2)) fun c => bigSep (Finset.univ : Finset (Fin 16)) fun s => Φ (worker c s) := by
  rw [bigSep_univ_equiv pairs Φ, bigSep_univ_prod (fun x : Fin 16 × Fin 2 => Φ (pairs x)),
    bigSep_univ_comm (fun (s : Fin 16) (c : Fin 2) => Φ (pairs (s, c)))]
  rfl

end Cert.Regroup
-- ==== Proof.Slices.lean ====
/-
  An array shared out to the thirty-two workers and gathered back. Held whole at a function `f`, an array is its
  workers' parts, each at the same `f`, grouped by SparseCore and subcore — whenever the parts are pairwise
  disjoint and cover the array; a table read by every worker at once is a remainder of its share and one read
  token per worker.
-/
import Idealize.ShloMosaic.Lib.Transfers
import proofs.«218857_g62938450756068_cont_9to1c4b_813_41_alg».proof.Proof.Regroup

noncomputable section

namespace Cert.Slices

open Idealize.ShloMosaic
open Idealize.SL Idealize.SL.RA Idealize.SL.BI
open scoped Idealize.SL.BI
open Idealize.SL.BI.BIBase Idealize.SL.BI.Laws Idealize.SL.Sem
open Cert.Regroup

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

variable {ℓ : Loc nD τ sig}

/-- The whole array at `f` is every worker's part at `f`. -/
theorem whole_eq_parts (q : PosShare TreeShare) (f : Buf Val ℓ) (part : Fin 32 → Finset (Idx ℓ))
    (hdisj : ∀ w w', w ≠ w' → Disjoint (part w) (part w')) (hcov : (Finset.univ : Finset (Fin 32)).biUnion part = Finset.univ) :
    (ℓ ↦[Finset.univ]{q} f : sProp 𝕄)
      = bigSep (Finset.univ : Finset (Fin 2)) fun c => bigSep (Finset.univ : Finset (Fin 16)) fun s => ℓ ↦[part (worker c s)]{q} f := by
  rw [← bigSep_workers (fun w => (ℓ ↦[part w]{q} f : sProp 𝕄)),
    ← pointsTo_biUnion Finset.univ part (fun t _ t' _ h => hdisj t t' h), hcov]

/-- A table at share `q` is what is left after thirty-two read tokens, and the tokens, one per worker. -/
theorem table_tokens (q : PosShare TreeShare) (f : Buf Val ℓ) :
    (ℓ ↦[Finset.univ]{q} f : sProp 𝕄)
      ⊣⊢ iprop((ℓ ↦[Finset.univ]{Transfers.shareDrop q 32} f)
          ∗ bigSep (Finset.univ : Finset (Fin 2)) fun c => bigSep (Finset.univ : Finset (Fin 16)) fun s =>
              ℓ ↦[Finset.univ]{Transfers.shareTok q 32 (worker c s)} f) := by
  rw [← bigSep_workers (fun w => (ℓ ↦[Finset.univ]{Transfers.shareTok q 32 w} f : sProp 𝕄))]
  exact Transfers.pointsTo_toks q 32

end Cert.Slices

end
-- ==== Proof.KernelIdealShares.lean ====
/-
  What the TensorCore hands the two SparseCores at each call and what comes back, as whole arrays: every
  SparseCore's share is its sixteen subcores' slices, and the thirty-two slices of an array are the array.
  Call 0: the context words, the flattened negatives, the two results, whole, and one read token of the table
  `eu` per worker; back, the results at their values. Call 1: the centre words, the context rows, the result,
  whole, and one read token of `ev` per worker.
-/
import proofs.«218857_g62938450756068_cont_9to1c4b_813_41_alg».proof.Proof.KernelIdealPay
import proofs.«218857_g62938450756068_cont_9to1c4b_813_41_alg».proof.Proof.Slices

noncomputable section

namespace Cert.Proof.KernelIdealShares

open Cert.KernelIdeal Cert.KernelIdeal.Gen Cert.Proof.KernelIdealBase Cert.Proof.KernelIdealPay

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.Regroup Cert.Slices

variable {F : FTy → Type}

local notation "𝕄" => MT nD τ sig (HIx 2) (Elt F) ℕ UU ℕ

variable (m : (ℓ : Loc nD τ sig) → Buf (Elt F) ℓ)

theorem wLU (c : Fin 2) (s : Fin 16) : TileU.wL (coordsU c s) = worker c s := rfl
theorem wLV (c : Fin 2) (s : Fin 16) : TileVDefs.wL (coordsV c s) = worker c s := rfl

/-! ## The parts are disjoint and cover -/

theorem ctx_disj : ∀ w w' : Fin 32, w ≠ w' → Disjoint (TileU.ctxSlice w) (TileU.ctxSlice w') := fun _ _ h => Rect.part_disjoint TileU.hdivCtx h
theorem ctx_cov : (Finset.univ : Finset (Fin 32)).biUnion TileU.ctxSlice = Finset.univ := Rect.biUnion_part TileU.hdivCtx
theorem neg_disj : ∀ w w' : Fin 32, w ≠ w' → Disjoint (TileU.negSlice w) (TileU.negSlice w') := fun _ _ h => Rect.part_disjoint TileU.hdivNeg h
theorem neg_cov : (Finset.univ : Finset (Fin 32)).biUnion TileU.negSlice = Finset.univ := Rect.biUnion_part TileU.hdivNeg
theorem urowsU_disj : ∀ w w' : Fin 32, w ≠ w' → Disjoint (TileU.urowsSlice w) (TileU.urowsSlice w') := fun _ _ h => Rect.part_disjoint TileU.hdivRows h
theorem urowsU_cov : (Finset.univ : Finset (Fin 32)).biUnion TileU.urowsSlice = Finset.univ := Rect.biUnion_part TileU.hdivRows
theorem pneg_disj : ∀ w w' : Fin 32, w ≠ w' → Disjoint (TileU.pnegSlice w) (TileU.pnegSlice w') := fun _ _ h => Rect.part_disjoint TileU.hdivOut h
theorem pneg_cov : (Finset.univ : Finset (Fin 32)).biUnion TileU.pnegSlice = Finset.univ := Rect.biUnion_part TileU.hdivOut
theorem center_disj : ∀ w w' : Fin 32, w ≠ w' → Disjoint (TileVDefs.centerSlice w) (TileVDefs.centerSlice w') := fun _ _ h => Rect.part_disjoint TileVDefs.hdiv_center h
theorem center_cov : (Finset.univ : Finset (Fin 32)).biUnion TileVDefs.centerSlice = Finset.univ := Rect.biUnion_part TileVDefs.hdiv_center
theorem urowsV_disj : ∀ w w' : Fin 32, w ≠ w' → Disjoint (TileVDefs.urowsSlice w) (TileVDefs.urowsSlice w') := fun _ _ h => Rect.part_disjoint TileVDefs.hdiv_urows h
theorem urowsV_cov : (Finset.univ : Finset (Fin 32)).biUnion TileVDefs.urowsSlice = Finset.univ := Rect.biUnion_part TileVDefs.hdiv_urows
theorem ppos_disj : ∀ w w' : Fin 32, w ≠ w' → Disjoint (TileVDefs.pposSlice w) (TileVDefs.pposSlice w') := fun _ _ h => Rect.part_disjoint TileVDefs.hdiv_ppos h
theorem ppos_cov : (Finset.univ : Finset (Fin 32)).biUnion TileVDefs.pposSlice = Finset.univ := Rect.biUnion_part TileVDefs.hdiv_ppos

/-! ## Call 0 -/

/-- One read token of the table at `ℓ` per worker. -/
abbrev tokens (ℓ : Loc nD τ sig) (f : Buf (Elt F) ℓ) : sProp 𝕄 :=
  bigSep (Finset.univ : Finset (Fin 2)) fun c => bigSep (Finset.univ : Finset (Fin 16)) fun s =>
    ℓ ↦[Finset.univ]{Transfers.shareTok fullShare 32 (worker c s)} f

variable [FloatOps F]

theorem shares0 (d : Dev nD) (NF : Buf (Elt F) (negFlatLoc d)) (fp : Buf (Elt F) (pnegLoc d)) (fu : Buf (Elt F) (urowsLoc d)) :
    (bigSep (Finset.univ : Finset (Fin 2)) fun c => bigSep (Finset.univ : Finset (Fin 16)) fun s => TileU.goU m d (coordsU c s) NF fp fu)
      = iprop((ctxLoc d ↦{fullShare} m (ctxLoc d)) ∗ (negFlatLoc d ↦{fullShare} NF) ∗ tokens (euLoc d) (m (euLoc d))
          ∗ (pnegLoc d ↦{fullShare} fp) ∗ (urowsLoc d ↦{fullShare} fu)) := by
  unfold TileU.goU
  simp only [wLU, bigSep_sep']
  rw [← whole_eq_parts fullShare (m (ctxLoc d)) TileU.ctxSlice ctx_disj ctx_cov,
    ← whole_eq_parts fullShare NF TileU.negSlice neg_disj neg_cov,
    ← whole_eq_parts fullShare fp TileU.pnegSlice pneg_disj pneg_cov,
    ← whole_eq_parts fullShare fu TileU.urowsSlice urowsU_disj urowsU_cov]

theorem st0_eq (d : Dev nD) :
    (bigSep Finset.univ fun c : Fin ((K (F := F)).nCore 0) => (P m).st 0 d c)
      = iprop((ctxLoc d ↦{fullShare} m (ctxLoc d)) ∗ (negFlatLoc d ↦{fullShare} negFlatF m d) ∗ tokens (euLoc d) (m (euLoc d))
          ∗ (pnegLoc d ↦{fullShare} m (pnegLoc d)) ∗ (urowsLoc d ↦{fullShare} m (urowsLoc d))) :=
  shares0 m d (negFlatF m d) (m (pnegLoc d)) (m (urowsLoc d))

theorem dn0_eq (d : Dev nD) :
    (bigSep Finset.univ fun c : Fin ((K (F := F)).nCore 0) => (P m).dn 0 d c)
      = iprop((ctxLoc d ↦{fullShare} m (ctxLoc d)) ∗ (negFlatLoc d ↦{fullShare} negFlatF m d) ∗ tokens (euLoc d) (m (euLoc d))
          ∗ (pnegLoc d ↦{fullShare} TileU.pnegF m d) ∗ (urowsLoc d ↦{fullShare} TileU.urowsF m d)) :=
  shares0 m d (negFlatF m d) (TileU.pnegF m d) (TileU.urowsF m d)

/-! ## Call 1 -/

theorem shares1 (d : Dev nD) (Uc : Buf (Elt F) (urowsLoc d)) (f0 : Buf (Elt F) (pposLoc d)) :
    (bigSep (Finset.univ : Finset (Fin 2)) fun c => bigSep (Finset.univ : Finset (Fin 16)) fun s => TileVDefs.goV m d (coordsV c s) Uc f0)
      = iprop((centerLoc d ↦{fullShare} m (centerLoc d)) ∗ tokens (evLoc d) (m (evLoc d))
          ∗ (urowsLoc d ↦{fullShare} Uc) ∗ (pposLoc d ↦{fullShare} f0)) := by
  unfold TileVDefs.goV
  simp only [wLV, bigSep_sep']
  rw [← whole_eq_parts fullShare (m (centerLoc d)) TileVDefs.centerSlice center_disj center_cov,
    ← whole_eq_parts fullShare Uc TileVDefs.urowsSlice urowsV_disj urowsV_cov,
    ← whole_eq_parts fullShare f0 TileVDefs.pposSlice ppos_disj ppos_cov]

theorem st1_eq (d : Dev nD) :
    (bigSep Finset.univ fun c : Fin ((K (F := F)).nCore 1) => (P m).st 1 d c)
      = iprop((centerLoc d ↦{fullShare} m (centerLoc d)) ∗ tokens (evLoc d) (m (evLoc d))
          ∗ (urowsLoc d ↦{fullShare} TileU.urowsF m d) ∗ (pposLoc d ↦{fullShare} m (pposLoc d))) :=
  shares1 m d (TileU.urowsF m d) (m (pposLoc d))

theorem dn1_eq (d : Dev nD) :
    (bigSep Finset.univ fun c : Fin ((K (F := F)).nCore 1) => (P m).dn 1 d c)
      = iprop((centerLoc d ↦{fullShare} m (centerLoc d)) ∗ tokens (evLoc d) (m (evLoc d))
          ∗ (urowsLoc d ↦{fullShare} TileU.urowsF m d) ∗ (pposLoc d ↦{fullShare} TileVDefs.pposF m d (TileU.urowsF m d))) := by
  show (bigSep (Finset.univ : Finset (Fin 2)) fun c => bigSep (Finset.univ : Finset (Fin 16)) fun s => TileVDefs.tdV m d (coordsV c s) (TileU.urowsF m d)) = _
  exact shares1 m d (TileU.urowsF m d) (TileVDefs.pposF m d (TileU.urowsF m d))

end Cert.Proof.KernelIdealShares

end
-- ==== Proof.KernelIdealElem.lean ====
/-
  The launch element of the ghost state, and what it funds: the handshake cells' rounds for the launch theorem,
  the TensorCore pipeline's staging cells for the one kernel region of @main (each device its own), and the
  transfers' counters, which the vector subcores' copies draw on by themselves. No SparseCore thread's kernel
  needs anything of the launch's at its call.
-/
import proofs.«218857_g62938450756068_cont_9to1c4b_813_41_alg».proof.Proof.KernelIdealPay
import proofs.«218857_g62938450756068_cont_9to1c4b_813_41_alg».proof.Proof.Gen.KernelIdeal.Launch

noncomputable section

namespace Cert.Proof.KernelIdealElem

open Cert.KernelIdeal Cert.KernelIdeal.Gen Cert.Proof.KernelIdealBase Cert.Proof.KernelIdealPay

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable (m : (ℓ : Loc nD τ sig) → Buf (Elt F) ℓ)

/-- The element: the handshakes' initial rounds, the pipeline's staging cells' initial rounds, the counters' unit. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What @main's proof on device `d` starts from: the region's staging cells' ghost state and duty tokens. -/
def G (d : Dev nD) : sProp 𝕄 :=
  iprop(Pipeline.cellsGhost cfgs (EP (F := F)) 0 d ∗ Pipeline.toksInit cfgs (EP (F := F)) 0 d)

theorem EP_eq : (EP (F := F)) = (Emb.inl : Emb UP (UP × Counters)).trans (embR : Emb (UP × Counters) 𝕄) := rfl

/-- The pipeline's component, reached through the right half of the pair, is reached through `EP`. -/
theorem own_EP (a : UP) :
    (BI.own (((Emb.inl : Emb UP (UP × Counters)).trans (embR : Emb (UP × Counters) 𝕄)) a) : sProp 𝕄) ⊢ BI.own ((EP (F := F)) a) := by
  rw [EP_eq]

theorem bigSep_fin1 {M : Type} [URA M] (X : Fin 1 → sProp M) : bigSep Finset.univ X = X 0 := by
  rw [show (Finset.univ : Finset (Fin 1)) = {0} from by decide, bigSep_singleton]

theorem bigSep_emp' {I : Type} (s : Finset I) : (bigSep s fun _ => iprop(emp)) = (iprop(emp) : sProp 𝕄) := bigSep_emp_const s

variable [FloatOps F]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP0, -⟩
  ihave HP := (own_EP (F := F) _) $$ HP0
  imod (Pipeline.fund_ghost (nD := nD) (τ := τ) cfgs (EP (F := F)) cellOf_inj) $$ HP with ⟨Hg, Ht⟩
  imodintro
  isplitl [HH]; · iexact HH
  isplitl [Hg Ht]
  · unfold G
    rw [bigSep_sep']
    isplitl [Hg]
    · rw [bigSep_congr fun d _ => bigSep_fin1 (fun p : Fin 1 => Pipeline.cellsGhost cfgs (EP (F := F)) p d)] at *
      exact BI.Entails.refl _
    · rw [bigSep_congr fun d _ => bigSep_fin1 (fun p : Fin 1 => (Pipeline.toksInit cfgs (EP (F := F)) p d : sProp 𝕄))] at *
      exact BI.Entails.refl _
  · unfold P; dsimp only
    rw [show (bigSep Finset.univ fun _ : Thread nD τ => bigSep Finset.univ fun _ : Fin 2 => (iprop(emp) : sProp 𝕄)) = iprop(emp) from by
      rw [bigSep_congr fun _ _ => bigSep_emp' (F := F) _, bigSep_emp' (F := F)]]
    iempintro

end Cert.Proof.KernelIdealElem

end
-- ==== Proof.RegionBody.lean ====
/-
  The TensorCore kernel that ends the program, run once on its staging buffers.

  The kernel is a pipeline of one point over three whole-array windows: the negative pairs' 16-lane partial
  products (10240 rows of 128) and the positive pairs' (2048 rows of 128), both staged whole in vector memory,
  and the one-element result, staged in scalar memory. The body loads both blocks whole, sums each group of 16
  lanes by a product with a 0/1 matrix, applies the logistic function and the logarithm, sums everything, scales
  by the constant word, and stores the one value: as a function of the two staged blocks `x` and `y` the stored
  value is `k2_pay1 (k2_pay3 x) (k2_pay4 y)`. It keeps nothing else and names no semaphore.
-/
import proofs.«218857_g62938450756068_cont_9to1c4b_813_41_alg».proof.Proof.Gen.KernelIdeal
import proofs.«218857_g62938450756068_cont_9to1c4b_813_41_alg».proof.Proof.Gen.KernelIdeal.Skeleton
import Idealize.ShloMosaic.Lib.Tactic
import Idealize.ShloMosaic.Lib.Pipeline.Kit

noncomputable section

namespace Cert.Proof.KernelIdealRegion

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- A memref's buffer on device `c`: its contents type, and the buffer held whole at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The one-element block the body stores, as a function of the two staged blocks. -/
abbrev lossOf (x : Vec F S10240x128 .f32) (y : Vec F S2048x128 .f32) : Vec F S1x1 .f32 :=
  fun _ => k2_pay1 (k2_pay3 x) (k2_pay4 y)

/-- A load through the whole of an input's staging buffer reads its contents. -/
theorem load0_eq (c : Dev nD) (f0 : Bf (F := F) c (stage2_0 0)) :
    View.readAt (Elt F) (stage2_0 0).view (Rect.unit (s := S10240x128) ![0, 0] S10240x128.size inb_S10240x128_S10240x128_0_0).toLoadRect f0 = f0 :=
  Memref.readAt_unit_zero (Elt F) cc2_stg0_0 (funext fun a => by fin_cases a <;> rfl) _ f0
theorem load1_eq (c : Dev nD) (f1 : Bf (F := F) c (stage2_1 0)) :
    View.readAt (Elt F) (stage2_1 0).view (Rect.unit (s := S2048x128) ![0, 0] S2048x128.size inb_S2048x128_S2048x128_0_0).toLoadRect f1 = f1 :=
  Memref.readAt_unit_zero (Elt F) cc2_stg1_0 (funext fun a => by fin_cases a <;> rfl) _ f1

/-- A store through the whole of the one-element staging buffer leaves the stored block, whatever it held. -/
theorem store2_eq (c : Dev nD) (f2 : Bf (F := F) c (stage2_2 0)) (w : S1x1.Idx → Elt F .f32) :
    (stage2_2 0).view.writes (Elt F) f2 [⟨Rect.unit (s := S1x1) ![0, 0] S1x1.size inb_S1x1_S1x1_0_0, w⟩] = w :=
  show View.write (Elt F) ((Memref.whole cc2_stg2_0).access (Rect.unit (s := S1x1) ![0, 0] S1x1.size inb_S1x1_S1x1_0_0)) f2 w Finset.univ = w from
    Memref.write_access_unit_zero_univ (Elt F) cc2_stg2_0 (off := ![0, 0]) (funext fun a => by fin_cases a <;> rfl) _ f2 w

/-- From the three staging buffers held whole, the body runs to its return handing back the two inputs' as they
    were and the result's at the stored block. -/
theorem lossRun (c : Dev nD) (f0 : Bf (F := F) c (stage2_0 0)) (f1 : Bf (F := F) c (stage2_1 0)) (f2 : Bf (F := F) c (stage2_2 0))
    (E : Set Name) (Q : PUnit → sProp 𝕄) :
    iprop(pt c (stage2_0 0) f0 ∗ pt c (stage2_1 0) f1 ∗ pt c (stage2_2 0) f2
        ∗ (iprop(pt c (stage2_0 0) f0 ∗ pt c (stage2_1 0) f1 ∗ pt c (stage2_2 0) (lossOf f0 f1)) -∗ Q ⟨⟩))
      ⊢ wp frame (wpE (defs₀ (F := F)) Variants.none c none) E
          (cc2__loss_body (stage2_0 0) (hstage2_0 0) (stage2_1 0) (hstage2_1 0) (stage2_2 0) (hstage2_2 0)) Q := by
  iintro ⟨H0, H1, H2, Hk⟩
  sl_exec
  sl_step
  rw [store2_eq]
  sl_unfold_run_names
  rw [load0_eq, load1_eq]
  iapply Hk
  isplitl [H0]; · iexact H0
  isplitl [H1]; · iexact H1
  iexact H2

end Cert.Proof.KernelIdealRegion

end
-- ==== Proof.Region.lean ====
/-
  The TensorCore kernel that ends the program, as one step of @main: the pipeline's proof data, the body
  obligation at its one point, and the region entered from the three arrays it windows.

  The pipeline has one point and three whole-array windows. The two inputs are fetched whole, so each staging
  buffer holds its whole array when the body runs; the output's one element is stored by the body and written
  back, so the result's array ends holding the stored block: `lossOf x y` of the two input arrays `x`, `y`.
  Nothing is owed during the region, and the pipeline's own waits are recorded at the index that belongs to no
  call, whose level is zero: below every level a later step may ask a bound for.
-/
import proofs.«218857_g62938450756068_cont_9to1c4b_813_41_alg».proof.Proof.RegionBody
import proofs.«218857_g62938450756068_cont_9to1c4b_813_41_alg».proof.Proof.KernelIdealBase
import proofs.«218857_g62938450756068_cont_9to1c4b_813_41_alg».proof.Proof.Gen.KernelIdeal.Launch
import proofs.«218857_g62938450756068_cont_9to1c4b_813_41_alg».proof.Proof.Gen.KernelIdeal.Points
import Idealize.ShloMosaic.Lib.Pipeline.Regions
import Idealize.ShloMosaic.Lib.Pipeline.Value

noncomputable section

namespace Cert.Proof.KernelIdealRegion

open Cert.KernelIdeal Cert.KernelIdeal.Gen
open Cert.Proof.KernelIdealBase

open Idealize.ShloMosaic
open Idealize.ShloMosaic.SparseCore (T)
open Idealize.ShloMosaic.SparseCore.Cfg (HIx)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-- The prefetched tables' admissible contents: no table. -/
abbrev adm : (p : Fin 1) → (pcfgs (F := F) p).Adm := fun p => (cfgs p).toPCfg_adm

/-! ## The proof data -/

/-- The three windowed arrays' contents at the region's entry, on every device. -/
structure Arrs (F : FTy → Type) where
  pn : (c : Dev nD) → Buf (Elt F) ((c : Thread nD τ).loc main_v3)
  pp : (c : Dev nD) → Buf (Elt F) ((c : Thread nD τ).loc main_v4)
  o : (c : Dev nD) → Buf (Elt F) ((c : Thread nD τ).loc main_v5)

variable (A : Arrs F)

/-- An input's block as the fetch stages it: the array read through the window's one block. -/
abbrev stg0 (c : Dev nD) : (cfg2.win 0).block.Idx → Elt F (cfg2.win 0).elt :=
  ((cfg2.win 0).blk t2_0).view.read (Elt F) (A.pn c)
abbrev stg1 (c : Dev nD) : (cfg2.win 1).block.Idx → Elt F (cfg2.win 1).elt :=
  ((cfg2.win 1).blk t2_0).view.read (Elt F) (A.pp c)

/-- The one block of a whole-array window is the array. -/
theorem stg0_eq (c : Dev nD) : stg0 A c = A.pn c :=
  Memref.read_access_unit_zero (Elt F) main_v3 (off := fun a => (cfg2.win 0).index t2_0 a * (cfg2.win 0).size a)
    (funext fun a => by show 0 * _ = 0; exact Nat.zero_mul _) _ (A.pn c)
theorem stg1_eq (c : Dev nD) : stg1 A c = A.pp c :=
  Memref.read_access_unit_zero (Elt F) main_v4 (off := fun a => (cfg2.win 1).index t2_0 a * (cfg2.win 1).size a)
    (funext fun a => by show 0 * _ = 0; exact Nat.zero_mul _) _ (A.pp c)

/-- The invariant between the region's ends: the scoped buffers the pipeline does not stage. -/
abbrev Φc (c : Dev nD) : sProp 𝕄 :=
  Pipeline.scopedRest (Ix := HIx 2) (Name := ℕ) (U := UU) (Lvl := ℕ) (Val := Elt F) spec2 c

/-- The pairs a wait of the TensorCore may have recorded by the region: those at or below the level of the last call. -/
def recd (c : Dev nD) : Set (SemLoc sig × HIx 2) := {p | (K (F := F)).lev ((c : Thread nD τ), p.1) p.2 ≤ 8 * 2}

/-- The proof data on device `c`: the arrays at their entry contents; after the body the inputs' buffers as fetched
    and the result's at the stored block; nothing owed; full shares. -/
def dat (c : Dev nD) : Dat τ (Elt F) (HIx 2) ℕ UU ℕ cfg2 c where
  A w := match w with
    | ⟨0, _⟩ => A.pn c
    | ⟨1, _⟩ => A.pp c
    | ⟨2, _⟩ => A.o c
  after w _ := match w with
    | ⟨0, _⟩ => stg0 A c
    | ⟨1, _⟩ => stg1 A c
    | ⟨2, _⟩ => lossOf (stg0 A c) (stg1 A c)
  Φ _ := Φc c
  q _ := fullShare
  owed _ := 0
  recorded _ := recd (F := F) c

abbrev pdats : (p : Fin 1) → (c : Dev nD) → Dat τ (Elt F) (HIx 2) ℕ UU ℕ (Pipeline.pin (pcfgs (F := F)) adm p) c :=
  fun _ c => dat A c

/-- A fetched input's buffer holds its array's block when the body runs. -/
theorem before_in0 (c : Dev nD) (d : (cfg2.win 0).block.Idx → Elt F (cfg2.win 0).elt) : (dat A c).before 0 t2_0 d = stg0 A c := by
  unfold Dat.before; rw [if_pos (by decide)]; rfl
theorem before_in1 (c : Dev nD) (d : (cfg2.win 1).block.Idx → Elt F (cfg2.win 1).elt) : (dat A c).before 1 t2_0 d = stg1 A c := by
  unfold Dat.before; rw [if_pos (by decide)]; rfl

/-- The body obligation at the one point: the three staging buffers and the invariant taken apart, the body's run
    applied, its post reassembled. -/
theorem body_obligation (c : Dev nD) : BodyObligation (dat A c) (defs₀ (F := F)) 𝒱₀ none Set.univ := fun t => by
  obtain rfl := fin_N2 t
  rw [bigSep_W2, bigSep_W2]
  simp only [owns_whole_eq]
  rw [show (dat A c).Φ t2_0.castSucc = Φc c from rfl, show (dat A c).Φ t2_0.succ = Φc c from rfl,
    show (dat A c).owesAt none t2_0.succ = (dat A c).owesAt none t2_0.castSucc from rfl]
  iintro ⟨HΦ, Howes, ⟨%d0, %f0, %hf0, H0⟩, ⟨%d1, %f1, %hf1, H1⟩, ⟨%d2, %f2, -, H2⟩⟩
  rw [before_in0] at hf0
  rw [before_in1] at hf1
  subst hf0
  subst hf1
  iapply (lossRun c (stg0 A c) (stg1 A c) f2 Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  iexists _; isplitr; swap; (· iexact H2); ipureintro; dsimp only [dat]

/-! ## The arrays after the region -/

/-- The inputs are never written. -/
theorem arrAt0 (c : Dev nD) : (dat A c).arrAt 0 cfg2.N = A.pn c := (dat A c).arrAt_in 0 rfl _
theorem arrAt1 (c : Dev nD) : (dat A c).arrAt 1 cfg2.N = A.pp c := (dat A c).arrAt_in 1 rfl _

/-- The result's array ends holding the stored block: its one block is written back at the point and covers it. -/
theorem arrAt2 (c : Dev nD) : (dat A c).arrAt 2 cfg2.N = lossOf (A.pn c) (A.pp c) := by
  refine (dat A c).arrAt_eq_of_cover 2 (lossOf (A.pn c) (A.pp c)) (fun t _ => ?_) (fun i => ⟨t2_0, by decide, ?_⟩)
  · obtain rfl := fin_N2 t
    rw [show (dat A c).flushed 2 t2_0 = lossOf (stg0 A c) (stg1 A c) from rfl, stg0_eq, stg1_eq]
    exact (Memref.read_access_unit_zero (Elt F) main_v5 (off := fun a => (cfg2.win 2).index t2_0 a * (cfg2.win 2).size a)
      (funext fun a => by show 0 * _ = 0; exact Nat.zero_mul _) _ (lossOf (A.pn c) (A.pp c))).symm
  · rw [show ((cfg2.win 2).blk t2_0).view.set = ((cfg2.win 2).rect t2_0).set from View.set_slice_whole _ _, Rect.mem_set_unit]
    intro a
    have h := (i a).isLt
    refine ⟨?_, ?_⟩
    · show 0 * _ ≤ _; rw [Nat.zero_mul]; exact Nat.zero_le _
    · show _ < 0 * _ + _; rw [Nat.zero_mul, Nat.zero_add]; exact h

/-! ## The region over the three arrays -/

/-- The three arrays held whole at given contents, on device `c`. -/
abbrev held3 (c : Dev nD) (x : Buf (Elt F) ((c : Thread nD τ).loc main_v3)) (y : Buf (Elt F) ((c : Thread nD τ).loc main_v4))
    (z : Buf (Elt F) ((c : Thread nD τ).loc main_v5)) : sProp 𝕄 :=
  iprop((((c : Thread nD τ).loc main_v3) ↦{fullShare} x) ∗ (((c : Thread nD τ).loc main_v4) ↦{fullShare} y) ∗ (((c : Thread nD τ).loc main_v5) ↦{fullShare} z))

/-- The TensorCore owing nothing, every pair its waits have recorded at or below the level of the last call. -/
abbrev owesB (c : Dev nD) : sProp 𝕄 :=
  iprop(∃ W, ⌜(K (F := F)).WBelow (c : Thread nD τ) W (8 * 2)⌝ ∗ owes (c : Thread nD τ) (0 : CellTallies nD τ sig (HIx 2)) W)

variable (lv : GSem nD τ sig → HIx 2 → ℕ)

-- a Launch.lean lemma stated over `pin pcs a p` at the pinned configuration unifies only when unification may unfold
-- plain definitions in a metavariable's type
set_option backward.isDefEq.respectTransparency.types false in
/-- The region: entered from the three arrays and the TensorCore's `owes`, nothing entering the invariant but the
    scoped rest, nothing bypassing; left with the arrays at what the pipeline library computes. The kernel has no
    semaphore of its own. -/
def reg : Pipeline.RegionSeg (pcfgs (F := F)) adm (pdats A) none defs₀ 𝒱₀ (K (F := F)).L lv 0 where
  win := launch2.win.to₀
  block_pos := launch2.block_pos
  stage_whole := launch2.stage_whole
  K := PEmpty
  osem k := k.elim
  ho := Pipeline.OwnSemFacts.none _
  hbody c := (body_obligation A c).loose
  hwaits := Pipeline.hwaits_of_owed_zero _ _ _ _ (K (F := F)).L lv 0 fun _ _ => rfl
  pre c := iprop(held3 c (A.pn c) (A.pp c) (A.o c) ∗ owesB c)
  post c := iprop(held3 c ((dat A c).arrAt 0 cfg2.N) ((dat A c).arrAt 1 cfg2.N) ((dat A c).arrAt 2 cfg2.N) ∗ owesB c)
  X _ := BI.emp
  Y _ := BI.emp
  Z _ := BI.emp
  hentry c := by
    rw [Pipeline.ownSems0_none,
      Pipeline.arrays_eq (Pipeline.pin (pcfgs (F := F)) adm) (pdats A) 0 c launch2.arr_whole ((pdats A 0 c).share_full fun _ => rfl),
      bigSep_W2]
    iintro ⟨⟨⟨H3, H4, H5⟩, ⟨%W, %hW, HO⟩⟩, -, -⟩
    imodintro
    isplitl [H3 H4 H5]
    · isplitl [H3]; · iexact H3
      isplitl [H4]; · iexact H4
      iexact H5
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iempintro
  hin c := by
    rw [show (pdats A 0 c).Φ 0 = Φc c from rfl]
    iintro ⟨-, -, Hr⟩; iexact Hr
  hout c := by
    rw [Pipeline.ownSems0_none, show (pdats A 0 c).Φ (Fin.last _) = Φc c from rfl]
    iintro Hr
    isplitr; · iempintro
    isplitr; · iempintro
    iexact Hr
  hexit c := by
    rw [Pipeline.arrays_eq (Pipeline.pin (pcfgs (F := F)) adm) (pdats A) 0 c launch2.arr_whole ((pdats A 0 c).share_full fun _ => rfl),
      bigSep_W2]
    iintro ⟨⟨H3, H4, H5⟩, HO, -, -⟩
    imodintro
    isplitl [H3 H4 H5]
    · isplitl [H3]; · iexact H3
      isplitl [H4]; · iexact H4
      iexact H5
    unfold Pipeline.Dat.owesAt Pipeline.owesWithin
    icases HO with ⟨%W, %hW, HO⟩
    iexists W; isplitr; swap; (· iexact HO)
    ipureintro
    intro p hp
    rcases hW hp with h | ⟨w, s, rfl⟩
    · exact h
    · exact Nat.zero_le _

theorem reg_pre (c : Dev nD) : (reg A lv).pre c = iprop(held3 c (A.pn c) (A.pp c) (A.o c) ∗ owesB c) := rfl
theorem reg_post (c : Dev nD) :
    (reg A lv).post c = iprop(held3 c ((dat A c).arrAt 0 cfg2.N) ((dat A c).arrAt 1 cfg2.N) ((dat A c).arrAt 2 cfg2.N) ∗ owesB c) := rfl

/-! ## The region as one step of @main -/

/-- The mesh has one device. -/
theorem dev_eq (d c : Dev nD) : d = c := Subsingleton.elim d c

/-- One device's three arrays as a family over the devices. -/
def Arrs.of (d : Dev nD) (pn : Buf (Elt F) ((d : Thread nD τ).loc main_v3)) (pp : Buf (Elt F) ((d : Thread nD τ).loc main_v4))
    (o : Buf (Elt F) ((d : Thread nD τ).loc main_v5)) : Arrs F where
  pn c := cast (congrArg (fun c : Dev nD => Buf (Elt F) ((c : Thread nD τ).loc main_v3)) (dev_eq d c)) pn
  pp c := cast (congrArg (fun c : Dev nD => Buf (Elt F) ((c : Thread nD τ).loc main_v4)) (dev_eq d c)) pp
  o c := cast (congrArg (fun c : Dev nD => Buf (Elt F) ((c : Thread nD τ).loc main_v5)) (dev_eq d c)) o

theorem Arrs.of_pn (d : Dev nD) (pn : Buf (Elt F) ((d : Thread nD τ).loc main_v3)) (pp : Buf (Elt F) ((d : Thread nD τ).loc main_v4))
    (o : Buf (Elt F) ((d : Thread nD τ).loc main_v5)) : (Arrs.of d pn pp o).pn d = pn := rfl
theorem Arrs.of_pp (d : Dev nD) (pn : Buf (Elt F) ((d : Thread nD τ).loc main_v3)) (pp : Buf (Elt F) ((d : Thread nD τ).loc main_v4))
    (o : Buf (Elt F) ((d : Thread nD τ).loc main_v5)) : (Arrs.of d pn pp o).pp d = pp := rfl
theorem Arrs.of_o (d : Dev nD) (pn : Buf (Elt F) ((d : Thread nD τ).loc main_v3)) (pp : Buf (Elt F) ((d : Thread nD τ).loc main_v4))
    (o : Buf (Elt F) ((d : Thread nD τ).loc main_v5)) : (Arrs.of d pn pp o).o d = o := rfl

set_option maxHeartbeats 1000000 in
set_option backward.isDefEq.respectTransparency.types false in
/-- The TensorCore kernel's line of @main, on the TensorCore of device `d`: from the region boundary, the level
    facts, the pipeline's staging cells' launch ghost state and duty tokens, the TensorCore owing nothing, and the
    three windowed arrays whole — the two inputs at `pn`, `pp`, the result at anything —, the call runs to the
    boundary again, the TensorCore still owing nothing, the inputs as they were and the result's one element at
    `k2_pay1 (k2_pay3 pn) (k2_pay4 pp)`. -/
theorem wp_loss_region (d : Dev nD) (pn : Buf (Elt F) ((d : Thread nD τ).loc main_v3)) (pp : Buf (Elt F) ((d : Thread nD τ).loc main_v4))
    (o : Buf (Elt F) ((d : Thread nD τ).loc main_v5)) (Φ : PUnit → sProp 𝕄) :
    iprop(boundary (T d) ∗ levAts (K (F := F)).L lv
        ∗ Pipeline.cellsGhost cfgs (EP (F := F)) 0 d ∗ Pipeline.toksInit cfgs (EP (F := F)) 0 d
        ∗ owesB d ∗ held3 d pn pp o
        ∗ (iprop(boundary (T d) ∗ owesB d ∗ held3 d pn pp (lossOf pn pp)) -∗ Φ ⟨⟩))
      ⊢ wp frame (wpE ((K (F := F)).defs D) 𝒱 (T d) none) Set.univ
          (Prog.lift (.customCall (SparseCore.inner (Pipeline.entry 0)) ())) Φ := by
  have hlift := (K (F := F)).wp_liftProg (D (F := F)) 𝒱 (T d) (Set.univ : Set ℕ) none
    (Prog.op (.customCall (Pipeline.entry (0 : Fin 1)) ()) fun _ => Prog.ret PUnit.unit) Φ
  have hreg := Pipeline.RegionSeg.wp (pcfgs (F := F)) adm (pdats (Arrs.of d pn pp o)) none cellOf_inj (EP (F := F)) defs₀ 𝒱₀
    (K (F := F)).L lv (reg (Arrs.of d pn pp o) lv) d none (fun _ h => nomatch h) (fun _ => Prog.ret PUnit.unit) Φ
  rw [reg_pre, reg_post] at hreg
  refine BIBase.Entails.trans ?_ hlift
  refine BIBase.Entails.trans ?_ hreg
  iintro ⟨Hb, #Hla, Hg, Ht, HO, Hh, Hk⟩
  isplitl [Hk]
  · iintro ⟨Hb, Hh, HO⟩
    rw [wp_ret, arrAt0, arrAt1, arrAt2]
    imodintro
    iapply Hk
    isplitl [Hb]; · iexact Hb
    isplitl [HO]; · iexact HO
    iexact Hh
  isplitl [Hb]; · iexact Hb
  isplitl [Hh HO]
  · isplitl [Hh]; · iexact Hh
    iexact HO
  isplitr; · iexact Hla
  isplitl [Hg]; · iexact Hg
  iexact Ht

end Cert.Proof.KernelIdealRegion

end
-- ==== Proof.KernelIdealMain.lean ====
/-
  @main on a device's TensorCore, against the launch theorem: the negatives flattened; the first SparseCore call
  handed the context words, the flattened negatives, the table `eu` as one read token per worker and its two
  results, all whole, and getting them back with the results at their values; the second call likewise with
  the centre words, the table `ev`, the context rows the first call left and its result; the two results read as
  rows of 128; the loss kernel's region; its one word read as a scalar. The arguments come through unchanged and
  the result holds the loss kernel's value of the two partial-product arrays.
-/
import proofs.«218857_g62938450756068_cont_9to1c4b_813_41_alg».proof.Proof.KernelIdealShares
import proofs.«218857_g62938450756068_cont_9to1c4b_813_41_alg».proof.Proof.KernelIdealElem
import proofs.«218857_g62938450756068_cont_9to1c4b_813_41_alg».proof.Proof.KernelIdealOut
import proofs.«218857_g62938450756068_cont_9to1c4b_813_41_alg».proof.Proof.Region

noncomputable section

namespace Cert.Proof.KernelIdealMain

open Cert.KernelIdeal Cert.KernelIdeal.Gen Cert.Proof.KernelIdealBase Cert.Proof.KernelIdealPay Cert.Proof.KernelIdealElem Cert.Proof.KernelIdealShares Cert.Proof.KernelIdealOut Cert.Proof.KernelIdealRegion

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.TcCoe
open Cert.Regroup Cert.Slices

variable {F : FTy → Type}

local notation "𝕄" => MT nD τ sig (HIx 2) (Elt F) ℕ UU ℕ

variable (m : (ℓ : Loc nD τ sig) → Buf (Elt F) ℓ) (ρ : Dev nD → PrngReg)

/-! ## A host reshape over its two arrays -/

section Reshape

variable [FloatOps F] (d : Dev nD) (x y : Ref sig .tc) (he : x.ty.elt = y.ty.elt) (hn : x.ty.shape.ShapeCasts y.ty.shape)
  (hx : x.space ≠ .host ∧ (x : DevRef τ sig).isScoped = false) (hy : y.space ≠ .host ∧ (y : DevRef τ sig).isScoped = false)

abbrev x' : DevRef τ sig := Proc.devRef .tc x
abbrev y' : DevRef τ sig := Proc.devRef .tc y

/-- The valuation that holds `fx` at `x`, `fy` at `y` and the launch contents elsewhere. -/
def Vxy (fx : Buf (Elt F) ((T d : Thread nD τ).loc x)) (fy : Buf (Elt F) ((T d : Thread nD τ).loc y)) : Valuation τ sig (Elt F) :=
  Function.update (Function.update (fun b => m (d, b)) (x' x) fx) (y' y) fy

theorem Vxy_y (fx) (fy) : Vxy m d x y fx fy (y' y) = fy := Function.update_self _ _ _
theorem Vxy_x (hxy : x ≠ y) (fx) (fy) : Vxy m d x y fx fy (x' x) = fx := by
  unfold Vxy
  rw [Function.update_of_ne (fun e => hxy (Proc.devRef_injective _ e)), Function.update_self]

theorem held_pair (hxy : x ≠ y) (W : Valuation τ sig (Elt F)) :
    (held (T d : Thread nD τ) ({x' x, y' y} : Finset (DevRef τ sig)) W : sProp 𝕄)
      = iprop(((T d : Thread nD τ).loc x ↦{fullShare} W (x' x)) ∗ (T d : Thread nD τ).loc y ↦{fullShare} W (y' y)) := by
  unfold held
  rw [SparseCore.bigSep_insert' (by
    rw [Finset.mem_singleton]; exact fun e => hxy (Proc.devRef_injective _ e)), bigSep_singleton]

include m in
/-- After the reshape the pair is `x` as it was and `y` at `x` recast. -/
theorem held_result (hxy : x ≠ y) (fx : Buf (Elt F) ((T d : Thread nD τ).loc x)) (fy : Buf (Elt F) ((T d : Thread nD τ).loc y)) :
    (held (T d : Thread nD τ) ({x' x, y' y} : Finset (DevRef τ sig)) ((StableHlo.reshape x y he hn hx hy).result (Vxy m d x y fx fy)) : sProp 𝕄)
      = iprop(((T d : Thread nD τ).loc x ↦{fullShare} fx) ∗ (T d : Thread nD τ).loc y ↦{fullShare} (fun i => he ▸ shapeCast y.ty.shape fx hn i)) := by
  rw [held_pair d x y hxy, StableHlo.reshape_result_ne' he hn hx hy _ hxy, StableHlo.reshape_result' he hn hx hy, Vxy_x m d x y hxy]

include m in
/-- A reshape of `x` into `y`, the two arrays held whole: `x` is kept and `y` is `x` recast. -/
theorem wp_reshape (hxy : x ≠ y) (fx : Buf (Elt F) ((T d : Thread nD τ).loc x)) (fy : Buf (Elt F) ((T d : Thread nD τ).loc y))
    (Φ : PUnit → sProp 𝕄) :
    iprop(boundary (T d : Thread nD τ) ∗ ((T d : Thread nD τ).loc x ↦{fullShare} fx) ∗ ((T d : Thread nD τ).loc y ↦{fullShare} fy)
        ∗ ((boundary (T d : Thread nD τ) ∗ ((T d : Thread nD τ).loc x ↦{fullShare} fx)
            ∗ ((T d : Thread nD τ).loc y ↦{fullShare} (fun i => he ▸ shapeCast y.ty.shape fx hn i))) -∗ Φ ⟨⟩))
      ⊢ wp frame (wpE ((K (F := F)).defs (D (F := F))) 𝒱 (T d : Thread nD τ) none) Set.univ
          (hlo rfl (StableHlo.reshape x y he hn hx hy) (fun _ => .ret ⟨⟩)) Φ := by
  iintro ⟨Hb, Hx, Hy, Hk⟩
  iapply (wp_hlo_within 𝒱 (T d : Thread nD τ) none Set.univ (op := StableHlo.reshape x y he hn hx hy)
    (S := ({x' x, y' y} : Finset (DevRef τ sig))) (Finset.Subset.refl _) (V := Vxy m d x y fx fy)) $$ [Hb Hx Hy]
  · isplitl [Hb]; · iexact Hb
    rw [held_pair d x y hxy, Vxy_x m d x y hxy, Vxy_y]
    isplitl [Hx]; · iexact Hx
    iexact Hy
  iintro ⟨Hb, Hh⟩
  ihave Hh2 := (Entails.of_eq (held_result m d x y he hn hx hy hxy fx fy)) $$ Hh
  icases Hh2 with ⟨Hx, Hy⟩
  rw [wp_ret]; imodintro
  iapply Hk
  isplitl [Hb]; · iexact Hb
  isplitl [Hx]; · iexact Hx
  iexact Hy

end Reshape

/-! ## @main -/

section Main

variable [FloatOps F]

/-- The TensorCore's unscoped arrays, one by one. -/
theorem bufs_eq (d : Dev nD) (W : (b : Ref sig .tc) → Buf (Elt F) ((d.tc : Thread nD τ).loc b)) :
    (unscopedBufs d W : sProp 𝕄)
      = iprop((centerLoc d ↦{fullShare} W main_arg0) ∗ (ctxLoc d ↦{fullShare} W main_arg1) ∗ (negLoc d ↦{fullShare} W main_arg2)
          ∗ (evLoc d ↦{fullShare} W main_arg3) ∗ (euLoc d ↦{fullShare} W main_arg4) ∗ (negFlatLoc d ↦{fullShare} W main_v0)
          ∗ (pnegLoc d ↦{fullShare} W main_v1_0) ∗ (urowsLoc d ↦{fullShare} W main_v1_1) ∗ (pposLoc d ↦{fullShare} W main_v2)
          ∗ ((T d : Thread nD τ).loc main_v3 ↦{fullShare} W main_v3) ∗ ((T d : Thread nD τ).loc main_v4 ↦{fullShare} W main_v4)
          ∗ ((T d : Thread nD τ).loc main_v5 ↦{fullShare} W main_v5) ∗ ((T d : Thread nD τ).loc main_v6 ↦{fullShare} W main_v6)) := by
  unfold unscopedBufs
  rw [show (Finset.univ.filter fun b : Ref sig .tc => ¬ b.isScoped)
      = {main_arg0, main_arg1, main_arg2, main_arg3, main_arg4, main_v0, main_v1_0, main_v1_1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What the TensorCore owes and has recorded once both calls are over: nothing owed. -/
theorem tcSt_end (d : Dev nD) :
    ((K (F := F)).tcSt EH d 2 : sProp 𝕄)
      = iprop(owesB (F := F) d ∗ (atPos EH ((K (F := F)).doneCell d) 2 ∅ 0 ∗ reached EH ((K (F := F)).doneCell d) 2
          ∗ (bigSep Finset.univ fun c : Fin τ.nSC => reached EH ((K (F := F)).startCell d c) ((K (F := F)).sRank c 2))
          ∗ bigSep (SparseCore.Cfg.callsFrom 2) fun q => bigSep Finset.univ fun c : Fin ((K (F := F)).nCore q) =>
              iprop(dutyTok EH ((K (F := F)).startCell d ((K (F := F)).core q c)) ((K (F := F)).sRank ((K (F := F)).core q c) q.val) 0
                ∗ cred (tallyAt ((K (F := F)).doneCell d) (some q) 1)))) := by
  unfold SparseCore.Cfg.tcSt
  rw [(K (F := F)).Otc_end d le_rfl]

/-- What @main leaves the claim: the result at its value and the five arguments at their launch contents. -/
abbrev FIN (d : Dev nD) : sProp 𝕄 :=
  iprop(((T d : Thread nD τ).loc main_v6 ↦{fullShare} outF m d) ∗ (centerLoc d ↦{fullShare} m (centerLoc d)) ∗ (ctxLoc d ↦{fullShare} m (ctxLoc d))
    ∗ (negLoc d ↦{fullShare} m (negLoc d)) ∗ (evLoc d ↦{fullShare} m (evLoc d)) ∗ (euLoc d ↦{fullShare} m (euLoc d)))

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (T d : Thread nD τ) none) Set.univ (main d)
          fun _ => iprop((K (F := F)).tcSt EH d 2 ∗ FIN m d) := by
  unfold SparseCore.Cfg.tcRes G
  rw [bufs_eq]
  simp only [main, wp_bind, wp_pure]
  iintro ⟨#Hctx, Hst, ⟨Hb, ⟨H0, H1, H2, H3, H4, Hv0, Hv10, Hv11, Hv2, Hv3, Hv4, Hv5, Hv6⟩, -, -⟩, ⟨Hcg, Htk⟩⟩
  ihave Hlv := (SparseCore.Cfg.ctx_levAts κ) $$ Hctx
  -- the negatives flattened
  iapply (wp_reshape m d main_arg2 main_v0 rfl Shapes1.Facts₀.shapeCasts_S16384x5_S81920 ⟨by decide, rfl⟩ ⟨by decide, rfl⟩ (by decide) _ _ _)
    $$ [Hst Hb H0 H1 H2 H3 H4 Hv0 Hv10 Hv11 Hv2 Hv3 Hv4 Hv5 Hv6 Hcg Htk Hlv]
  isplitl [Hb]; · iexact Hb
  isplitl [H2]; · iexact H2
  isplitl [Hv0]; · iexact Hv0
  iintro ⟨Hb, H2, Hv0⟩
  -- the first call: the table as read tokens, the arrays whole
  ihave H4s := (table_tokens fullShare (m (euLoc d))).1 $$ H4
  icases H4s with ⟨H4d, H4t⟩
  iapply ((K (F := F)).wp_run (D (F := F)) 𝒱 (EH := EH) (P := P m) κ d 0)
    $$ [Hst Hb H0 H1 H2 H3 H4d H4t Hv0 Hv10 Hv11 Hv2 Hv3 Hv4 Hv5 Hv6 Hcg Htk Hlv]
  isplitr; · iexact Hctx
  isplitl [Hst]; · iexact Hst
  isplitl [H1 Hv0 H4t Hv10 Hv11]
  · rw [st0_eq]
    isplitl [H1]; · iexact H1
    isplitl [Hv0]; · iexact Hv0
    isplitl [H4t]; · iexact H4t
    isplitl [Hv10]; · iexact Hv10
    iexact Hv11
  iintro ⟨Hst, Hdn⟩
  ihave Hdn' := (Entails.of_eq (dn0_eq m d)) $$ Hdn
  icases Hdn' with ⟨H1, Hv0, H4t, Hv10, Hv11⟩
  ihave H4 := (table_tokens fullShare (m (euLoc d))).2 $$ [H4d H4t]
  · isplitl [H4d]; · iexact H4d
    iexact H4t
  -- the second call
  ihave H3s := (table_tokens fullShare (m (evLoc d))).1 $$ H3
  icases H3s with ⟨H3d, H3t⟩
  iapply ((K (F := F)).wp_run (D (F := F)) 𝒱 (EH := EH) (P := P m) κ d 1)
    $$ [Hst Hb H0 H1 H2 H3d H3t H4 Hv0 Hv10 Hv11 Hv2 Hv3 Hv4 Hv5 Hv6 Hcg Htk Hlv]
  isplitr; · iexact Hctx
  isplitl [Hst]; · iexact Hst
  isplitl [H0 H3t Hv11 Hv2]
  · rw [st1_eq]
    isplitl [H0]; · iexact H0
    isplitl [H3t]; · iexact H3t
    isplitl [Hv11]; · iexact Hv11
    iexact Hv2
  iintro ⟨Hst, Hdn⟩
  ihave Hdn' := (Entails.of_eq (dn1_eq m d)) $$ Hdn
  icases Hdn' with ⟨H0, H3t, Hv11, Hv2⟩
  ihave H3 := (table_tokens fullShare (m (evLoc d))).2 $$ [H3d H3t]
  · isplitl [H3d]; · iexact H3d
    iexact H3t
  -- the two results as rows of 128
  iapply (wp_reshape m d main_v1_0 main_v3 rfl Shapes1.Facts₀.shapeCasts_S1310720_S10240x128 ⟨by decide, rfl⟩ ⟨by decide, rfl⟩ (by decide) _ _ _)
    $$ [Hst Hb H0 H1 H2 H3 H4 Hv0 Hv10 Hv11 Hv2 Hv3 Hv4 Hv5 Hv6 Hcg Htk Hlv]
  isplitl [Hb]; · iexact Hb
  isplitl [Hv10]; · iexact Hv10
  isplitl [Hv3]; · iexact Hv3
  iintro ⟨Hb, Hv10, Hv3⟩
  iapply (wp_reshape m d main_v2 main_v4 rfl Shapes1.Facts₀.shapeCasts_S262144_S2048x128 ⟨by decide, rfl⟩ ⟨by decide, rfl⟩ (by decide) _ _ _)
    $$ [Hst Hb H0 H1 H2 H3 H4 Hv0 Hv10 Hv11 Hv2 Hv3 Hv4 Hv5 Hv6 Hcg Htk Hlv]
  isplitl [Hb]; · iexact Hb
  isplitl [Hv2]; · iexact Hv2
  isplitl [Hv4]; · iexact Hv4
  iintro ⟨Hb, Hv2, Hv4⟩
  -- the loss kernel's region
  ihave Hst' := (Entails.of_eq (show ((K (F := F)).tcSt EH d ((1 : Fin 2).val + 1) : sProp 𝕄) = _ from tcSt_end (F := F) d)) $$ Hst
  icases Hst' with ⟨HO, Hrest⟩
  iapply (wp_loss_region (F := F) (K (F := F)).lev d _ _ _ _)
    $$ [HO Hrest Hb H0 H1 H2 H3 H4 Hv0 Hv10 Hv11 Hv2 Hv3 Hv4 Hv5 Hv6 Hcg Htk Hlv]
  isplitl [Hb]; · iexact Hb
  isplitl [Hlv]; · iexact Hlv
  isplitl [Hcg]; · iexact Hcg
  isplitl [Htk]; · iexact Htk
  isplitl [HO]; · iexact HO
  isplitl [Hv3 Hv4 Hv5]
  · isplitl [Hv3]; · iexact Hv3
    isplitl [Hv4]; · iexact Hv4
    iexact Hv5
  iintro ⟨Hb, HO, Hv3, Hv4, Hv5⟩
  -- its word read as the scalar result
  iapply (wp_reshape m d main_v5 main_v6 rfl Shapes1.Facts₀.shapeCasts_S1x1_S_ ⟨by decide, rfl⟩ ⟨by decide, rfl⟩ (by decide) _ _ _)
    $$ [HO Hrest Hb H0 H1 H2 H3 H4 Hv0 Hv10 Hv11 Hv2 Hv3 Hv4 Hv5 Hv6]
  isplitl [Hb]; · iexact Hb
  isplitl [Hv5]; · iexact Hv5
  isplitl [Hv6]; · iexact Hv6
  iintro ⟨Hb, Hv5, Hv6⟩
  imodintro
  isplitl [HO Hrest]
  · iapply (Entails.of_eq (tcSt_end (F := F) d).symm)
    isplitl [HO]; · iexact HO
    iexact Hrest
  isplitl [Hv6]; · iexact Hv6
  isplitl [H0]; · iexact H0
  isplitl [H1]; · iexact H1
  isplitl [H2]; · iexact H2
  isplitl [H3]; · iexact H3
  iexact H4

end Main

end Cert.Proof.KernelIdealMain

end
-- ==== Proof.KernelIdealRun.lean ====
/-
  The kernel program's run: the launch theorem applied to the two vector-subcore obligations, the split of a
  SparseCore's share among its subcores, the launch element, @main on the TensorCore, and how the final memory
  reads the result and the arguments off what @main leaves.
-/
import proofs.«218857_g62938450756068_cont_9to1c4b_813_41_alg».proof.Proof.KernelIdealMain

noncomputable section

namespace Cert.Proof.KernelIdealRun

open Cert.KernelIdeal Cert.KernelIdeal.Gen Cert.Proof.KernelIdealBase Cert.Proof.KernelIdealPay Cert.Proof.KernelIdealElem Cert.Proof.KernelIdealOut Cert.Proof.KernelIdealMain

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable (m : (ℓ : Loc nD τ sig) → Buf (Elt F) ℓ) (ρ : Dev nD → PrngReg)

/-- An array held whole at `f` reads `f` in the state. -/
theorem agree_at (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

variable [FloatOps F]

/-- What the final memory says on device `d`: the result at its value, the arguments as they were. -/
def fq (d : Dev nD) (s' : Phys nD τ sig (Elt F)) : Prop :=
  s'.mem.mem ((d.tc : Thread nD τ).loc main_v6) = outF m d
    ∧ s'.mem.mem ((d.tc : Thread nD τ).loc main_arg0) = m ((d.tc : Thread nD τ).loc main_arg0)
    ∧ s'.mem.mem ((d.tc : Thread nD τ).loc main_arg1) = m ((d.tc : Thread nD τ).loc main_arg1)
    ∧ s'.mem.mem ((d.tc : Thread nD τ).loc main_arg2) = m ((d.tc : Thread nD τ).loc main_arg2)
    ∧ s'.mem.mem ((d.tc : Thread nD τ).loc main_arg3) = m ((d.tc : Thread nD τ).loc main_arg3)
    ∧ s'.mem.mem ((d.tc : Thread nD τ).loc main_arg4) = m ((d.tc : Thread nD τ).loc main_arg4)

theorem hfin (d : Dev nD) (s' : Phys nD τ sig (Elt F)) : iprop(FIN m d ∗ SI s') ⊢ (⌜fq m d s'⌝ : sProp 𝕄) := by
  have h6 : iprop(FIN m d ∗ SI s') ⊢ (⌜s'.mem.mem ((d.tc : Thread nD τ).loc main_v6) = outF m d⌝ : sProp 𝕄) := by
    iintro ⟨⟨H, -⟩, HSI⟩; iapply (agree_at _ _ s'); isplitl [H] <;> iassumption
  have h0 : iprop(FIN m d ∗ SI s') ⊢ (⌜s'.mem.mem ((d.tc : Thread nD τ).loc main_arg0) = m ((d.tc : Thread nD τ).loc main_arg0)⌝ : sProp 𝕄) := by
    iintro ⟨⟨-, H, -⟩, HSI⟩; iapply (agree_at _ _ s'); isplitl [H] <;> iassumption
  have h1 : iprop(FIN m d ∗ SI s') ⊢ (⌜s'.mem.mem ((d.tc : Thread nD τ).loc main_arg1) = m ((d.tc : Thread nD τ).loc main_arg1)⌝ : sProp 𝕄) := by
    iintro ⟨⟨-, -, H, -⟩, HSI⟩; iapply (agree_at _ _ s'); isplitl [H] <;> iassumption
  have h2 : iprop(FIN m d ∗ SI s') ⊢ (⌜s'.mem.mem ((d.tc : Thread nD τ).loc main_arg2) = m ((d.tc : Thread nD τ).loc main_arg2)⌝ : sProp 𝕄) := by
    iintro ⟨⟨-, -, -, H, -⟩, HSI⟩; iapply (agree_at _ _ s'); isplitl [H] <;> iassumption
  have h3 : iprop(FIN m d ∗ SI s') ⊢ (⌜s'.mem.mem ((d.tc : Thread nD τ).loc main_arg3) = m ((d.tc : Thread nD τ).loc main_arg3)⌝ : sProp 𝕄) := by
    iintro ⟨⟨-, -, -, -, H, -⟩, HSI⟩; iapply (agree_at _ _ s'); isplitl [H] <;> iassumption
  have h4 : iprop(FIN m d ∗ SI s') ⊢ (⌜s'.mem.mem ((d.tc : Thread nD τ).loc main_arg4) = m ((d.tc : Thread nD τ).loc main_arg4)⌝ : sProp 𝕄) := by
    iintro ⟨⟨-, -, -, -, -, H⟩, HSI⟩; iapply (agree_at _ _ s'); isplitl [H] <;> iassumption
  exact fun a h => show fq m d s' from ⟨h6 a h, h0 a h, h1 a h, h2 a h, h3 a h, h4 a h⟩

/-- The program's run, from the two vector-subcore obligations. -/
theorem run_of_obl [∀ e, Nonempty (Elt F e)]
    (hobl0 : (K (F := F)).TileObl (D (F := F)) 𝒱 (P m) v₀ 0) (hobl1 : (K (F := F)).TileObl (D (F := F)) 𝒱 (P m) v₀ 1) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq | 1 => nomatch hq)
    (fun q _ => match q with | 0 => hobl0 | 1 => hobl1)
    (fun q _ => match q with
      | 0 => SparseCore.Cfg.VecSplit.of_plain (vecSplit m 0)
      | 1 => SparseCore.Cfg.VecSplit.of_plain (vecSplit m 1))
    m ρ main (G (F := F)) (FIN m) (u₀ (F := F)) (sep_elim_left.trans (hu₀ m)) (hmain m ρ) (fq m) (hfin m) (QC m) (fun _ h => h)

end Cert.Proof.KernelIdealRun

end
-- ==== Proof.KernelIdealStmt.lean ====
/-
  What remains to be proved of a vector subcore's task, stated once per kernel as a proposition, and the
  program's run from the two: the first kernel's task at a symbolic subcore takes its share of call 0 to the
  same share with the two result slices at their values; the second kernel's likewise for call 1.
-/
import proofs.«218857_g62938450756068_cont_9to1c4b_813_41_alg».proof.Proof.KernelIdealObl
import proofs.«218857_g62938450756068_cont_9to1c4b_813_41_alg».proof.Proof.KernelIdealRun

noncomputable section

namespace Cert.Proof.KernelIdealStmt

open Cert.KernelIdeal Cert.KernelIdeal.Gen Cert.Proof.KernelIdealBase Cert.Proof.KernelIdealPay Cert.Proof.KernelIdealBodies Cert.Proof.KernelIdealOut

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (ρ : Dev nD → PrngReg)

/-- The first kernel's task on the subcore at grid coordinates `L`. -/
def BodyU : Prop :=
  ∀ (d : Dev nD) (L : grid0.Coords) (O : CellTallies nD τ sig (HIx 2)) (W : Waits sig (HIx 2)), (∀ g, O g none = 0) →
    iprop(levAts (K (F := F)).L (K (F := F)).lev ∗ emp ∗ TileU.goU m d L (negFlatF m d) (m (pnegLoc d)) (m (urowsLoc d))
        ∗ scopedBufs (V d (TileU.cV L) (TileU.jV L)) ∗ scopedSems0 (V d (TileU.cV L) (TileU.jV L))
        ∗ owes (V d (TileU.cV L) (TileU.jV L)) O W)
      ⊢ wp frame (wpE (defs₀ (F := F)) 𝒱₀ (V d (TileU.cV L) (TileU.jV L)) none) Set.univ (bodyU (F := F) L)
          fun _ => (iprop(TileU.tdU m d L (negFlatF m d) ∗ scopedBufs (V d (TileU.cV L) (TileU.jV L)) ∗ scopedSems0 (V d (TileU.cV L) (TileU.jV L))
            ∗ ∃ W', ⌜∀ p ∈ W', p ∈ W ∨ p.2 = none⌝ ∗ owes (V d (TileU.cV L) (TileU.jV L)) O W') : sProp 𝕄)

/-- The second kernel's task on the subcore at grid coordinates `L`. -/
def BodyV : Prop :=
  ∀ (d : Dev nD) (L : grid1.Coords) (O : CellTallies nD τ sig (HIx 2)) (W : Waits sig (HIx 2)), (∀ g, O g none = 0) →
    iprop(levAts (K (F := F)).L (K (F := F)).lev ∗ emp ∗ TileVDefs.goV m d L (TileU.urowsF m d) (m (pposLoc d))
        ∗ scopedBufs (V d (TileVDefs.cV L) (TileVDefs.jV L)) ∗ scopedSems0 (V d (TileVDefs.cV L) (TileVDefs.jV L))
        ∗ owes (V d (TileVDefs.cV L) (TileVDefs.jV L)) O W)
      ⊢ wp frame (wpE (defs₀ (F := F)) 𝒱₀ (V d (TileVDefs.cV L) (TileVDefs.jV L)) none) Set.univ (bodyV (F := F) L)
          fun _ => (iprop(TileVDefs.tdV m d L (TileU.urowsF m d) ∗ scopedBufs (V d (TileVDefs.cV L) (TileVDefs.jV L)) ∗ scopedSems0 (V d (TileVDefs.cV L) (TileVDefs.jV L))
            ∗ ∃ W', ⌜∀ p ∈ W', p ∈ W ∨ p.2 = none⌝ ∗ owes (V d (TileVDefs.cV L) (TileVDefs.jV L)) O W') : sProp 𝕄)

/-- The program's run from the two tasks. -/
theorem run_of_bodies [∀ e, Nonempty (Elt F e)] (hU : BodyU m) (hV : BodyV m) :
    θ_run (Cert.KernelIdeal.defs (F := F)) (Cert.KernelIdeal.threads (F := F)) ⟨m, fun _ => 0, ρ⟩ (QC m) :=
  KernelIdealRun.run_of_obl m ρ (KernelIdealObl.tileObl0 m hU) (KernelIdealObl.tileObl1 m hV)

end Cert.Proof.KernelIdealStmt

end
-- ==== Proof.KernelBodies.lean ====
/-
  The two SparseCore kernels as the body table calls them: each kernel's function at a vector subcore's grid
  coordinates, on the whole arrays in high-bandwidth memory, the subcore's own scratch buffers and its DMA
  semaphores. What a proof of one subcore's task is a statement about.
-/
import proofs.«218857_g62938450756068_cont_9to1c4b_813_41_alg».proof.Proof.KernelBase

noncomputable section

namespace Cert.Proof.KernelBodies

open Cert.Kernel Cert.Kernel.Gen

open Idealize.ShloMosaic Idealize.SL.Sem

variable {F : FTy → Type} [FloatOps F]

/-- The first kernel (the context rows and the negative pairs' partial products) at grid coordinates `L`. -/
abbrev bodyU (L : grid0.Coords) : Prog (TpuEff nD τ sig (Elt F) Λ₀ (.scVector ((L 0).castLE hcore0) ((L 1).castLE hsub0))) PUnit :=
  cc0__sc_u_body L (Memref.whole main_arg1_scv) (Memref.isWhole_whole _) (Memref.whole main_v0_scv) (Memref.isWhole_whole _)
    (Memref.whole main_arg4_scv) (Memref.isWhole_whole _) (Memref.whole main_v1_0_scv) (Memref.isWhole_whole _)
    (Memref.whole main_v1_1_scv) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    cc0_scratch5 cc0_scoped0 cc0_scoped1 cc0_scoped2 cc0_scoped3 cc0_scoped4 cc0_scoped5 cc0_scoped6 cc0_scoped7 cc0_scoped8
    cc0_scoped9 cc0_scoped10

/-- The second kernel (the positive pairs' partial products) at grid coordinates `L`. -/
abbrev bodyV (L : grid1.Coords) : Prog (TpuEff nD τ sig (Elt F) Λ₀ (.scVector ((L 0).castLE hcore1) ((L 1).castLE hsub1))) PUnit :=
  cc1__sc_v_body L (Memref.whole main_arg0_scv) (Memref.isWhole_whole _) (Memref.whole main_arg3_scv) (Memref.isWhole_whole _)
    (Memref.whole main_v1_1_scv) (Memref.isWhole_whole _) (Memref.whole main_v2_scv) (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    cc1_scratch4 cc1_scoped0 cc1_scoped1 cc1_scoped2 cc1_scoped3 cc1_scoped4 cc1_scoped5 cc1_scoped6 cc1_scoped7 cc1_scoped8
    cc1_scoped9

end Cert.Proof.KernelBodies

end
-- ==== Proof.KernelObl.lean ====
/-
  The launch theorem's two vector-subcore obligations, each from the proof of one subcore's task at symbolic grid
  coordinates: the body table's row for the kernel's label is the kernel at the subcore's coordinates when the
  grid holds it, the task's operands and results are the subcore's slices at those coordinates, and neither
  kernel owes anything for a protocol of its own.
-/
import proofs.«218857_g62938450756068_cont_9to1c4b_813_41_alg».proof.Proof.KernelPay
import proofs.«218857_g62938450756068_cont_9to1c4b_813_41_alg».proof.Proof.KernelBodies

noncomputable section

namespace Cert.Proof.KernelObl

open Cert.Kernel Cert.Kernel.Gen Cert.Proof.KernelBase Cert.Proof.KernelPay Cert.Proof.KernelBodies

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ)

/-- The body table's row for each kernel's label on a vector subcore: the kernel at the subcore's coordinates when
    the grid holds it. -/
theorem defs₀_vector0 (c : Fin τ.nSC) (s : Fin τ.nSub) :
    defs₀ (F := F) (.scVector c s) 0 () = SparseCore.onTile hcore0 hsub0 (fun c s => bodyU (F := F) (coordsU c s)) ⟨⟩ c s := rfl
theorem defs₀_vector1 (c : Fin τ.nSC) (s : Fin τ.nSub) :
    defs₀ (F := F) (.scVector c s) 1 () = SparseCore.onTile hcore1 hsub1 (fun c s => bodyV (F := F) (coordsV c s)) ⟨⟩ c s := rfl

omit [FloatOps F] in
/-- A task that records only waits at the index of no call meets the launch theorem's bound on its recorded pairs. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The first kernel's obligation, from its task proved at symbolic coordinates. -/
theorem tileObl0
    (hbody : ∀ (d : Dev nD) (L : grid0.Coords) (O : CellTallies nD τ sig (HIx 2)) (W : Waits sig (HIx 2)), (∀ g, O g none = 0) →
      iprop(levAts (K (F := F)).L (K (F := F)).lev ∗ emp ∗ KTileU.goU m d L (negFlatF m d) (m (pnegLoc d)) (m (urowsLoc d))
          ∗ scopedBufs (V d (KTileU.cV L) (KTileU.jV L)) ∗ scopedSems0 (V d (KTileU.cV L) (KTileU.jV L))
          ∗ owes (V d (KTileU.cV L) (KTileU.jV L)) O W)
        ⊢ wp frame (wpE (defs₀ (F := F)) 𝒱₀ (V d (KTileU.cV L) (KTileU.jV L)) none) Set.univ (bodyU (F := F) L)
            fun _ => iprop(KTileU.tdU m d L (negFlatF m d) ∗ scopedBufs (V d (KTileU.cV L) (KTileU.jV L)) ∗ scopedSems0 (V d (KTileU.cV L) (KTileU.jV L))
              ∗ ∃ W', ⌜∀ p ∈ W', p ∈ W ∨ p.2 = none⌝ ∗ owes (V d (KTileU.cV L) (KTileU.jV L)) O W')) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (hbody d (coordsU ⟨_, hc.1⟩ ⟨_, hc.2⟩) O W hO).trans (wp_mono frame _ _ fun _ => obl_post)

/-- The second kernel's obligation, from its task proved at symbolic coordinates. -/
theorem tileObl1
    (hbody : ∀ (d : Dev nD) (L : grid1.Coords) (O : CellTallies nD τ sig (HIx 2)) (W : Waits sig (HIx 2)), (∀ g, O g none = 0) →
      iprop(levAts (K (F := F)).L (K (F := F)).lev ∗ emp ∗ KTileVDefs.goV m d L (KTileU.urowsF m d) (m (pposLoc d))
          ∗ scopedBufs (V d (KTileVDefs.cV L) (KTileVDefs.jV L)) ∗ scopedSems0 (V d (KTileVDefs.cV L) (KTileVDefs.jV L))
          ∗ owes (V d (KTileVDefs.cV L) (KTileVDefs.jV L)) O W)
        ⊢ wp frame (wpE (defs₀ (F := F)) 𝒱₀ (V d (KTileVDefs.cV L) (KTileVDefs.jV L)) none) Set.univ (bodyV (F := F) L)
            fun _ => iprop(KTileVDefs.tdV m d L (KTileU.urowsF m d) ∗ scopedBufs (V d (KTileVDefs.cV L) (KTileVDefs.jV L)) ∗ scopedSems0 (V d (KTileVDefs.cV L) (KTileVDefs.jV L))
              ∗ ∃ W', ⌜∀ p ∈ W', p ∈ W ∨ p.2 = none⌝ ∗ owes (V d (KTileVDefs.cV L) (KTileVDefs.jV L)) O W')) :
    (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  exact (hbody d (coordsV ⟨_, hc.1⟩ ⟨_, hc.2⟩) O W hO).trans (wp_mono frame _ _ fun _ => obl_post)

end Cert.Proof.KernelObl

end
-- ==== Proof.KernelShares.lean ====
/-
  What the TensorCore hands the two SparseCores at each call and what comes back, as whole arrays: every
  SparseCore's share is its sixteen subcores' slices, and the thirty-two slices of an array are the array.
  Call 0: the context words, the flattened negatives, the two results, whole, and one read token of the table
  `eu` per worker; back, the results at their values. Call 1: the centre words, the context rows, the result,
  whole, and one read token of `ev` per worker.
-/
import proofs.«218857_g62938450756068_cont_9to1c4b_813_41_alg».proof.Proof.KernelPay
import proofs.«218857_g62938450756068_cont_9to1c4b_813_41_alg».proof.Proof.Slices

noncomputable section

namespace Cert.Proof.KernelShares

open Cert.Kernel Cert.Kernel.Gen Cert.Proof.KernelBase Cert.Proof.KernelPay

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.Regroup Cert.Slices

variable {F : FTy → Type}

local notation "𝕄" => MT nD τ sig (HIx 2) (Elt F) ℕ UU ℕ

variable (m : (ℓ : Loc nD τ sig) → Buf (Elt F) ℓ)

theorem wLU (c : Fin 2) (s : Fin 16) : KTileU.wL (coordsU c s) = worker c s := rfl
theorem wLV (c : Fin 2) (s : Fin 16) : KTileVDefs.wL (coordsV c s) = worker c s := rfl

/-! ## The parts are disjoint and cover -/

theorem ctx_disj : ∀ w w' : Fin 32, w ≠ w' → Disjoint (KTileU.ctxSlice w) (KTileU.ctxSlice w') := fun _ _ h => Rect.part_disjoint KTileU.hdivCtx h
theorem ctx_cov : (Finset.univ : Finset (Fin 32)).biUnion KTileU.ctxSlice = Finset.univ := Rect.biUnion_part KTileU.hdivCtx
theorem neg_disj : ∀ w w' : Fin 32, w ≠ w' → Disjoint (KTileU.negSlice w) (KTileU.negSlice w') := fun _ _ h => Rect.part_disjoint KTileU.hdivNeg h
theorem neg_cov : (Finset.univ : Finset (Fin 32)).biUnion KTileU.negSlice = Finset.univ := Rect.biUnion_part KTileU.hdivNeg
theorem urowsU_disj : ∀ w w' : Fin 32, w ≠ w' → Disjoint (KTileU.urowsSlice w) (KTileU.urowsSlice w') := fun _ _ h => Rect.part_disjoint KTileU.hdivRows h
theorem urowsU_cov : (Finset.univ : Finset (Fin 32)).biUnion KTileU.urowsSlice = Finset.univ := Rect.biUnion_part KTileU.hdivRows
theorem pneg_disj : ∀ w w' : Fin 32, w ≠ w' → Disjoint (KTileU.pnegSlice w) (KTileU.pnegSlice w') := fun _ _ h => Rect.part_disjoint KTileU.hdivOut h
theorem pneg_cov : (Finset.univ : Finset (Fin 32)).biUnion KTileU.pnegSlice = Finset.univ := Rect.biUnion_part KTileU.hdivOut
theorem center_disj : ∀ w w' : Fin 32, w ≠ w' → Disjoint (KTileVDefs.centerSlice w) (KTileVDefs.centerSlice w') := fun _ _ h => Rect.part_disjoint KTileVDefs.hdiv_center h
theorem center_cov : (Finset.univ : Finset (Fin 32)).biUnion KTileVDefs.centerSlice = Finset.univ := Rect.biUnion_part KTileVDefs.hdiv_center
theorem urowsV_disj : ∀ w w' : Fin 32, w ≠ w' → Disjoint (KTileVDefs.urowsSlice w) (KTileVDefs.urowsSlice w') := fun _ _ h => Rect.part_disjoint KTileVDefs.hdiv_urows h
theorem urowsV_cov : (Finset.univ : Finset (Fin 32)).biUnion KTileVDefs.urowsSlice = Finset.univ := Rect.biUnion_part KTileVDefs.hdiv_urows
theorem ppos_disj : ∀ w w' : Fin 32, w ≠ w' → Disjoint (KTileVDefs.pposSlice w) (KTileVDefs.pposSlice w') := fun _ _ h => Rect.part_disjoint KTileVDefs.hdiv_ppos h
theorem ppos_cov : (Finset.univ : Finset (Fin 32)).biUnion KTileVDefs.pposSlice = Finset.univ := Rect.biUnion_part KTileVDefs.hdiv_ppos

/-! ## Call 0 -/

/-- One read token of the table at `ℓ` per worker. -/
abbrev tokens (ℓ : Loc nD τ sig) (f : Buf (Elt F) ℓ) : sProp 𝕄 :=
  bigSep (Finset.univ : Finset (Fin 2)) fun c => bigSep (Finset.univ : Finset (Fin 16)) fun s =>
    ℓ ↦[Finset.univ]{Transfers.shareTok fullShare 32 (worker c s)} f

variable [FloatOps F]

theorem shares0 (d : Dev nD) (NF : Buf (Elt F) (negFlatLoc d)) (fp : Buf (Elt F) (pnegLoc d)) (fu : Buf (Elt F) (urowsLoc d)) :
    (bigSep (Finset.univ : Finset (Fin 2)) fun c => bigSep (Finset.univ : Finset (Fin 16)) fun s => KTileU.goU m d (coordsU c s) NF fp fu)
      = iprop((ctxLoc d ↦{fullShare} m (ctxLoc d)) ∗ (negFlatLoc d ↦{fullShare} NF) ∗ tokens (euLoc d) (m (euLoc d))
          ∗ (pnegLoc d ↦{fullShare} fp) ∗ (urowsLoc d ↦{fullShare} fu)) := by
  unfold KTileU.goU
  simp only [wLU, bigSep_sep']
  rw [← whole_eq_parts fullShare (m (ctxLoc d)) KTileU.ctxSlice ctx_disj ctx_cov,
    ← whole_eq_parts fullShare NF KTileU.negSlice neg_disj neg_cov,
    ← whole_eq_parts fullShare fp KTileU.pnegSlice pneg_disj pneg_cov,
    ← whole_eq_parts fullShare fu KTileU.urowsSlice urowsU_disj urowsU_cov]

theorem st0_eq (d : Dev nD) :
    (bigSep Finset.univ fun c : Fin ((K (F := F)).nCore 0) => (P m).st 0 d c)
      = iprop((ctxLoc d ↦{fullShare} m (ctxLoc d)) ∗ (negFlatLoc d ↦{fullShare} negFlatF m d) ∗ tokens (euLoc d) (m (euLoc d))
          ∗ (pnegLoc d ↦{fullShare} m (pnegLoc d)) ∗ (urowsLoc d ↦{fullShare} m (urowsLoc d))) :=
  shares0 m d (negFlatF m d) (m (pnegLoc d)) (m (urowsLoc d))

theorem dn0_eq (d : Dev nD) :
    (bigSep Finset.univ fun c : Fin ((K (F := F)).nCore 0) => (P m).dn 0 d c)
      = iprop((ctxLoc d ↦{fullShare} m (ctxLoc d)) ∗ (negFlatLoc d ↦{fullShare} negFlatF m d) ∗ tokens (euLoc d) (m (euLoc d))
          ∗ (pnegLoc d ↦{fullShare} KTileU.pnegF m d) ∗ (urowsLoc d ↦{fullShare} KTileU.urowsF m d)) :=
  shares0 m d (negFlatF m d) (KTileU.pnegF m d) (KTileU.urowsF m d)

/-! ## Call 1 -/

theorem shares1 (d : Dev nD) (Uc : Buf (Elt F) (urowsLoc d)) (f0 : Buf (Elt F) (pposLoc d)) :
    (bigSep (Finset.univ : Finset (Fin 2)) fun c => bigSep (Finset.univ : Finset (Fin 16)) fun s => KTileVDefs.goV m d (coordsV c s) Uc f0)
      = iprop((centerLoc d ↦{fullShare} m (centerLoc d)) ∗ tokens (evLoc d) (m (evLoc d))
          ∗ (urowsLoc d ↦{fullShare} Uc) ∗ (pposLoc d ↦{fullShare} f0)) := by
  unfold KTileVDefs.goV
  simp only [wLV, bigSep_sep']
  rw [← whole_eq_parts fullShare (m (centerLoc d)) KTileVDefs.centerSlice center_disj center_cov,
    ← whole_eq_parts fullShare Uc KTileVDefs.urowsSlice urowsV_disj urowsV_cov,
    ← whole_eq_parts fullShare f0 KTileVDefs.pposSlice ppos_disj ppos_cov]

theorem st1_eq (d : Dev nD) :
    (bigSep Finset.univ fun c : Fin ((K (F := F)).nCore 1) => (P m).st 1 d c)
      = iprop((centerLoc d ↦{fullShare} m (centerLoc d)) ∗ tokens (evLoc d) (m (evLoc d))
          ∗ (urowsLoc d ↦{fullShare} KTileU.urowsF m d) ∗ (pposLoc d ↦{fullShare} m (pposLoc d))) :=
  shares1 m d (KTileU.urowsF m d) (m (pposLoc d))

theorem dn1_eq (d : Dev nD) :
    (bigSep Finset.univ fun c : Fin ((K (F := F)).nCore 1) => (P m).dn 1 d c)
      = iprop((centerLoc d ↦{fullShare} m (centerLoc d)) ∗ tokens (evLoc d) (m (evLoc d))
          ∗ (urowsLoc d ↦{fullShare} KTileU.urowsF m d) ∗ (pposLoc d ↦{fullShare} KTileVDefs.pposF m d (KTileU.urowsF m d))) := by
  show (bigSep (Finset.univ : Finset (Fin 2)) fun c => bigSep (Finset.univ : Finset (Fin 16)) fun s => KTileVDefs.tdV m d (coordsV c s) (KTileU.urowsF m d)) = _
  exact shares1 m d (KTileU.urowsF m d) (KTileVDefs.pposF m d (KTileU.urowsF m d))

end Cert.Proof.KernelShares

end
-- ==== Proof.KernelElem.lean ====
/-
  The launch element of the ghost state, and what it funds: the handshake cells' rounds for the launch theorem,
  the TensorCore pipeline's staging cells for the one kernel region of @main (each device its own), and the
  transfers' counters, which the vector subcores' copies draw on by themselves. No SparseCore thread's kernel
  needs anything of the launch's at its call.
-/
import proofs.«218857_g62938450756068_cont_9to1c4b_813_41_alg».proof.Proof.KernelPay
import proofs.«218857_g62938450756068_cont_9to1c4b_813_41_alg».proof.Proof.Gen.Kernel.Launch

noncomputable section

namespace Cert.Proof.KernelElem

open Cert.Kernel Cert.Kernel.Gen Cert.Proof.KernelBase Cert.Proof.KernelPay

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable (m : (ℓ : Loc nD τ sig) → Buf (Elt F) ℓ)

/-- The element: the handshakes' initial rounds, the pipeline's staging cells' initial rounds, the counters' unit. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What @main's proof on device `d` starts from: the region's staging cells' ghost state and duty tokens. -/
def G (d : Dev nD) : sProp 𝕄 :=
  iprop(Pipeline.cellsGhost cfgs (EP (F := F)) 0 d ∗ Pipeline.toksInit cfgs (EP (F := F)) 0 d)

theorem EP_eq : (EP (F := F)) = (Emb.inl : Emb UP (UP × Counters)).trans (embR : Emb (UP × Counters) 𝕄) := rfl

/-- The pipeline's component, reached through the right half of the pair, is reached through `EP`. -/
theorem own_EP (a : UP) :
    (BI.own (((Emb.inl : Emb UP (UP × Counters)).trans (embR : Emb (UP × Counters) 𝕄)) a) : sProp 𝕄) ⊢ BI.own ((EP (F := F)) a) := by
  rw [EP_eq]

theorem bigSep_fin1 {M : Type} [URA M] (X : Fin 1 → sProp M) : bigSep Finset.univ X = X 0 := by
  rw [show (Finset.univ : Finset (Fin 1)) = {0} from by decide, bigSep_singleton]

theorem bigSep_emp' {I : Type} (s : Finset I) : (bigSep s fun _ => iprop(emp)) = (iprop(emp) : sProp 𝕄) := bigSep_emp_const s

variable [FloatOps F]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP0, -⟩
  ihave HP := (own_EP (F := F) _) $$ HP0
  imod (Pipeline.fund_ghost (nD := nD) (τ := τ) cfgs (EP (F := F)) cellOf_inj) $$ HP with ⟨Hg, Ht⟩
  imodintro
  isplitl [HH]; · iexact HH
  isplitl [Hg Ht]
  · unfold G
    rw [bigSep_sep']
    isplitl [Hg]
    · rw [bigSep_congr fun d _ => bigSep_fin1 (fun p : Fin 1 => Pipeline.cellsGhost cfgs (EP (F := F)) p d)] at *
      exact BI.Entails.refl _
    · rw [bigSep_congr fun d _ => bigSep_fin1 (fun p : Fin 1 => (Pipeline.toksInit cfgs (EP (F := F)) p d : sProp 𝕄))] at *
      exact BI.Entails.refl _
  · unfold P; dsimp only
    rw [show (bigSep Finset.univ fun _ : Thread nD τ => bigSep Finset.univ fun _ : Fin 2 => (iprop(emp) : sProp 𝕄)) = iprop(emp) from by
      rw [bigSep_congr fun _ _ => bigSep_emp' (F := F) _, bigSep_emp' (F := F)]]
    iempintro

end Cert.Proof.KernelElem

end
-- ==== Proof.KRegionBody.lean ====
/-
  The TensorCore kernel that ends the program, run once on its staging buffers.

  The kernel is a pipeline of one point over three whole-array windows: the negative pairs' 16-lane partial
  products (10240 rows of 128) and the positive pairs' (2048 rows of 128), both staged whole in vector memory,
  and the one-element result, staged in scalar memory. The body loads both blocks whole, sums each group of 16
  lanes by a product with a 0/1 matrix, applies the logistic function and the logarithm, sums everything, scales
  by the constant word, and stores the one value: as a function of the two staged blocks `x` and `y` the stored
  value is `k2_pay1 (k2_pay3 x) (k2_pay4 y)`. It keeps nothing else and names no semaphore.
-/
import proofs.«218857_g62938450756068_cont_9to1c4b_813_41_alg».proof.Proof.Gen.Kernel
import proofs.«218857_g62938450756068_cont_9to1c4b_813_41_alg».proof.Proof.Gen.Kernel.Skeleton
import Idealize.ShloMosaic.Lib.Tactic
import Idealize.ShloMosaic.Lib.Pipeline.Kit

noncomputable section

namespace Cert.Proof.KernelRegion

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- A memref's buffer on device `c`: its contents type, and the buffer held whole at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The one-element block the body stores, as a function of the two staged blocks. -/
abbrev lossOf (x : Vec F S10240x128 .f32) (y : Vec F S2048x128 .f32) : Vec F S1x1 .f32 :=
  fun _ => k2_pay1 (k2_pay3 x) (k2_pay4 y)

/-- A load through the whole of an input's staging buffer reads its contents. -/
theorem load0_eq (c : Dev nD) (f0 : Bf (F := F) c (stage2_0 0)) :
    View.readAt (Elt F) (stage2_0 0).view (Rect.unit (s := S10240x128) ![0, 0] S10240x128.size inb_S10240x128_S10240x128_0_0).toLoadRect f0 = f0 :=
  Memref.readAt_unit_zero (Elt F) cc2_stg0_0 (funext fun a => by fin_cases a <;> rfl) _ f0
theorem load1_eq (c : Dev nD) (f1 : Bf (F := F) c (stage2_1 0)) :
    View.readAt (Elt F) (stage2_1 0).view (Rect.unit (s := S2048x128) ![0, 0] S2048x128.size inb_S2048x128_S2048x128_0_0).toLoadRect f1 = f1 :=
  Memref.readAt_unit_zero (Elt F) cc2_stg1_0 (funext fun a => by fin_cases a <;> rfl) _ f1

/-- A store through the whole of the one-element staging buffer leaves the stored block, whatever it held. -/
theorem store2_eq (c : Dev nD) (f2 : Bf (F := F) c (stage2_2 0)) (w : S1x1.Idx → Elt F .f32) :
    (stage2_2 0).view.writes (Elt F) f2 [⟨Rect.unit (s := S1x1) ![0, 0] S1x1.size inb_S1x1_S1x1_0_0, w⟩] = w :=
  show View.write (Elt F) ((Memref.whole cc2_stg2_0).access (Rect.unit (s := S1x1) ![0, 0] S1x1.size inb_S1x1_S1x1_0_0)) f2 w Finset.univ = w from
    Memref.write_access_unit_zero_univ (Elt F) cc2_stg2_0 (off := ![0, 0]) (funext fun a => by fin_cases a <;> rfl) _ f2 w

/-- From the three staging buffers held whole, the body runs to its return handing back the two inputs' as they
    were and the result's at the stored block. -/
theorem lossRun (c : Dev nD) (f0 : Bf (F := F) c (stage2_0 0)) (f1 : Bf (F := F) c (stage2_1 0)) (f2 : Bf (F := F) c (stage2_2 0))
    (E : Set Name) (Q : PUnit → sProp 𝕄) :
    iprop(pt c (stage2_0 0) f0 ∗ pt c (stage2_1 0) f1 ∗ pt c (stage2_2 0) f2
        ∗ (iprop(pt c (stage2_0 0) f0 ∗ pt c (stage2_1 0) f1 ∗ pt c (stage2_2 0) (lossOf f0 f1)) -∗ Q ⟨⟩))
      ⊢ wp frame (wpE (defs₀ (F := F)) Variants.none c none) E
          (cc2__loss_body (stage2_0 0) (hstage2_0 0) (stage2_1 0) (hstage2_1 0) (stage2_2 0) (hstage2_2 0)) Q := by
  iintro ⟨H0, H1, H2, Hk⟩
  sl_exec
  sl_step
  rw [store2_eq]
  sl_unfold_run_names
  rw [load0_eq, load1_eq]
  iapply Hk
  isplitl [H0]; · iexact H0
  isplitl [H1]; · iexact H1
  iexact H2

end Cert.Proof.KernelRegion

end
-- ==== Proof.KRegion.lean ====
/-
  The TensorCore kernel that ends the program, as one step of @main: the pipeline's proof data, the body
  obligation at its one point, and the region entered from the three arrays it windows.

  The pipeline has one point and three whole-array windows. The two inputs are fetched whole, so each staging
  buffer holds its whole array when the body runs; the output's one element is stored by the body and written
  back, so the result's array ends holding the stored block: `lossOf x y` of the two input arrays `x`, `y`.
  Nothing is owed during the region, and the pipeline's own waits are recorded at the index that belongs to no
  call, whose level is zero: below every level a later step may ask a bound for.
-/
import proofs.«218857_g62938450756068_cont_9to1c4b_813_41_alg».proof.Proof.KRegionBody
import proofs.«218857_g62938450756068_cont_9to1c4b_813_41_alg».proof.Proof.KernelBase
import proofs.«218857_g62938450756068_cont_9to1c4b_813_41_alg».proof.Proof.Gen.Kernel.Launch
import proofs.«218857_g62938450756068_cont_9to1c4b_813_41_alg».proof.Proof.Gen.Kernel.Points
import Idealize.ShloMosaic.Lib.Pipeline.Regions
import Idealize.ShloMosaic.Lib.Pipeline.Value

noncomputable section

namespace Cert.Proof.KernelRegion

open Cert.Kernel Cert.Kernel.Gen
open Cert.Proof.KernelBase

open Idealize.ShloMosaic
open Idealize.ShloMosaic.SparseCore (T)
open Idealize.ShloMosaic.SparseCore.Cfg (HIx)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-- The prefetched tables' admissible contents: no table. -/
abbrev adm : (p : Fin 1) → (pcfgs (F := F) p).Adm := fun p => (cfgs p).toPCfg_adm

/-! ## The proof data -/

/-- The three windowed arrays' contents at the region's entry, on every device. -/
structure Arrs (F : FTy → Type) where
  pn : (c : Dev nD) → Buf (Elt F) ((c : Thread nD τ).loc main_v3)
  pp : (c : Dev nD) → Buf (Elt F) ((c : Thread nD τ).loc main_v4)
  o : (c : Dev nD) → Buf (Elt F) ((c : Thread nD τ).loc main_v5)

variable (A : Arrs F)

/-- An input's block as the fetch stages it: the array read through the window's one block. -/
abbrev stg0 (c : Dev nD) : (cfg2.win 0).block.Idx → Elt F (cfg2.win 0).elt :=
  ((cfg2.win 0).blk t2_0).view.read (Elt F) (A.pn c)
abbrev stg1 (c : Dev nD) : (cfg2.win 1).block.Idx → Elt F (cfg2.win 1).elt :=
  ((cfg2.win 1).blk t2_0).view.read (Elt F) (A.pp c)

/-- The one block of a whole-array window is the array. -/
theorem stg0_eq (c : Dev nD) : stg0 A c = A.pn c :=
  Memref.read_access_unit_zero (Elt F) main_v3 (off := fun a => (cfg2.win 0).index t2_0 a * (cfg2.win 0).size a)
    (funext fun a => by show 0 * _ = 0; exact Nat.zero_mul _) _ (A.pn c)
theorem stg1_eq (c : Dev nD) : stg1 A c = A.pp c :=
  Memref.read_access_unit_zero (Elt F) main_v4 (off := fun a => (cfg2.win 1).index t2_0 a * (cfg2.win 1).size a)
    (funext fun a => by show 0 * _ = 0; exact Nat.zero_mul _) _ (A.pp c)

/-- The invariant between the region's ends: the scoped buffers the pipeline does not stage. -/
abbrev Φc (c : Dev nD) : sProp 𝕄 :=
  Pipeline.scopedRest (Ix := HIx 2) (Name := ℕ) (U := UU) (Lvl := ℕ) (Val := Elt F) spec2 c

/-- The pairs a wait of the TensorCore may have recorded by the region: those at or below the level of the last call. -/
def recd (c : Dev nD) : Set (SemLoc sig × HIx 2) := {p | (K (F := F)).lev ((c : Thread nD τ), p.1) p.2 ≤ 8 * 2}

/-- The proof data on device `c`: the arrays at their entry contents; after the body the inputs' buffers as fetched
    and the result's at the stored block; nothing owed; full shares. -/
def dat (c : Dev nD) : Dat τ (Elt F) (HIx 2) ℕ UU ℕ cfg2 c where
  A w := match w with
    | ⟨0, _⟩ => A.pn c
    | ⟨1, _⟩ => A.pp c
    | ⟨2, _⟩ => A.o c
  after w _ := match w with
    | ⟨0, _⟩ => stg0 A c
    | ⟨1, _⟩ => stg1 A c
    | ⟨2, _⟩ => lossOf (stg0 A c) (stg1 A c)
  Φ _ := Φc c
  q _ := fullShare
  owed _ := 0
  recorded _ := recd (F := F) c

abbrev pdats : (p : Fin 1) → (c : Dev nD) → Dat τ (Elt F) (HIx 2) ℕ UU ℕ (Pipeline.pin (pcfgs (F := F)) adm p) c :=
  fun _ c => dat A c

/-- A fetched input's buffer holds its array's block when the body runs. -/
theorem before_in0 (c : Dev nD) (d : (cfg2.win 0).block.Idx → Elt F (cfg2.win 0).elt) : (dat A c).before 0 t2_0 d = stg0 A c := by
  unfold Dat.before; rw [if_pos (by decide)]; rfl
theorem before_in1 (c : Dev nD) (d : (cfg2.win 1).block.Idx → Elt F (cfg2.win 1).elt) : (dat A c).before 1 t2_0 d = stg1 A c := by
  unfold Dat.before; rw [if_pos (by decide)]; rfl

/-- The body obligation at the one point: the three staging buffers and the invariant taken apart, the body's run
    applied, its post reassembled. -/
theorem body_obligation (c : Dev nD) : BodyObligation (dat A c) (defs₀ (F := F)) 𝒱₀ none Set.univ := fun t => by
  obtain rfl := fin_N2 t
  rw [bigSep_W2, bigSep_W2]
  simp only [owns_whole_eq]
  rw [show (dat A c).Φ t2_0.castSucc = Φc c from rfl, show (dat A c).Φ t2_0.succ = Φc c from rfl,
    show (dat A c).owesAt none t2_0.succ = (dat A c).owesAt none t2_0.castSucc from rfl]
  iintro ⟨HΦ, Howes, ⟨%d0, %f0, %hf0, H0⟩, ⟨%d1, %f1, %hf1, H1⟩, ⟨%d2, %f2, -, H2⟩⟩
  rw [before_in0] at hf0
  rw [before_in1] at hf1
  subst hf0
  subst hf1
  iapply (lossRun c (stg0 A c) (stg1 A c) f2 Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  iexists _; isplitr; swap; (· iexact H2); ipureintro; dsimp only [dat]

/-! ## The arrays after the region -/

/-- The inputs are never written. -/
theorem arrAt0 (c : Dev nD) : (dat A c).arrAt 0 cfg2.N = A.pn c := (dat A c).arrAt_in 0 rfl _
theorem arrAt1 (c : Dev nD) : (dat A c).arrAt 1 cfg2.N = A.pp c := (dat A c).arrAt_in 1 rfl _

/-- The result's array ends holding the stored block: its one block is written back at the point and covers it. -/
theorem arrAt2 (c : Dev nD) : (dat A c).arrAt 2 cfg2.N = lossOf (A.pn c) (A.pp c) := by
  refine (dat A c).arrAt_eq_of_cover 2 (lossOf (A.pn c) (A.pp c)) (fun t _ => ?_) (fun i => ⟨t2_0, by decide, ?_⟩)
  · obtain rfl := fin_N2 t
    rw [show (dat A c).flushed 2 t2_0 = lossOf (stg0 A c) (stg1 A c) from rfl, stg0_eq, stg1_eq]
    exact (Memref.read_access_unit_zero (Elt F) main_v5 (off := fun a => (cfg2.win 2).index t2_0 a * (cfg2.win 2).size a)
      (funext fun a => by show 0 * _ = 0; exact Nat.zero_mul _) _ (lossOf (A.pn c) (A.pp c))).symm
  · rw [show ((cfg2.win 2).blk t2_0).view.set = ((cfg2.win 2).rect t2_0).set from View.set_slice_whole _ _, Rect.mem_set_unit]
    intro a
    have h := (i a).isLt
    refine ⟨?_, ?_⟩
    · show 0 * _ ≤ _; rw [Nat.zero_mul]; exact Nat.zero_le _
    · show _ < 0 * _ + _; rw [Nat.zero_mul, Nat.zero_add]; exact h

/-! ## The region over the three arrays -/

/-- The three arrays held whole at given contents, on device `c`. -/
abbrev held3 (c : Dev nD) (x : Buf (Elt F) ((c : Thread nD τ).loc main_v3)) (y : Buf (Elt F) ((c : Thread nD τ).loc main_v4))
    (z : Buf (Elt F) ((c : Thread nD τ).loc main_v5)) : sProp 𝕄 :=
  iprop((((c : Thread nD τ).loc main_v3) ↦{fullShare} x) ∗ (((c : Thread nD τ).loc main_v4) ↦{fullShare} y) ∗ (((c : Thread nD τ).loc main_v5) ↦{fullShare} z))

/-- The TensorCore owing nothing, every pair its waits have recorded at or below the level of the last call. -/
abbrev owesB (c : Dev nD) : sProp 𝕄 :=
  iprop(∃ W, ⌜(K (F := F)).WBelow (c : Thread nD τ) W (8 * 2)⌝ ∗ owes (c : Thread nD τ) (0 : CellTallies nD τ sig (HIx 2)) W)

variable (lv : GSem nD τ sig → HIx 2 → ℕ)

-- a Launch.lean lemma stated over `pin pcs a p` at the pinned configuration unifies only when unification may unfold
-- plain definitions in a metavariable's type
set_option backward.isDefEq.respectTransparency.types false in
/-- The region: entered from the three arrays and the TensorCore's `owes`, nothing entering the invariant but the
    scoped rest, nothing bypassing; left with the arrays at what the pipeline library computes. The kernel has no
    semaphore of its own. -/
def reg : Pipeline.RegionSeg (pcfgs (F := F)) adm (pdats A) none defs₀ 𝒱₀ (K (F := F)).L lv 0 where
  win := launch2.win.to₀
  block_pos := launch2.block_pos
  stage_whole := launch2.stage_whole
  K := PEmpty
  osem k := k.elim
  ho := Pipeline.OwnSemFacts.none _
  hbody c := (body_obligation A c).loose
  hwaits := Pipeline.hwaits_of_owed_zero _ _ _ _ (K (F := F)).L lv 0 fun _ _ => rfl
  pre c := iprop(held3 c (A.pn c) (A.pp c) (A.o c) ∗ owesB c)
  post c := iprop(held3 c ((dat A c).arrAt 0 cfg2.N) ((dat A c).arrAt 1 cfg2.N) ((dat A c).arrAt 2 cfg2.N) ∗ owesB c)
  X _ := BI.emp
  Y _ := BI.emp
  Z _ := BI.emp
  hentry c := by
    rw [Pipeline.ownSems0_none,
      Pipeline.arrays_eq (Pipeline.pin (pcfgs (F := F)) adm) (pdats A) 0 c launch2.arr_whole ((pdats A 0 c).share_full fun _ => rfl),
      bigSep_W2]
    iintro ⟨⟨⟨H3, H4, H5⟩, ⟨%W, %hW, HO⟩⟩, -, -⟩
    imodintro
    isplitl [H3 H4 H5]
    · isplitl [H3]; · iexact H3
      isplitl [H4]; · iexact H4
      iexact H5
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iempintro
  hin c := by
    rw [show (pdats A 0 c).Φ 0 = Φc c from rfl]
    iintro ⟨-, -, Hr⟩; iexact Hr
  hout c := by
    rw [Pipeline.ownSems0_none, show (pdats A 0 c).Φ (Fin.last _) = Φc c from rfl]
    iintro Hr
    isplitr; · iempintro
    isplitr; · iempintro
    iexact Hr
  hexit c := by
    rw [Pipeline.arrays_eq (Pipeline.pin (pcfgs (F := F)) adm) (pdats A) 0 c launch2.arr_whole ((pdats A 0 c).share_full fun _ => rfl),
      bigSep_W2]
    iintro ⟨⟨H3, H4, H5⟩, HO, -, -⟩
    imodintro
    isplitl [H3 H4 H5]
    · isplitl [H3]; · iexact H3
      isplitl [H4]; · iexact H4
      iexact H5
    unfold Pipeline.Dat.owesAt Pipeline.owesWithin
    icases HO with ⟨%W, %hW, HO⟩
    iexists W; isplitr; swap; (· iexact HO)
    ipureintro
    intro p hp
    rcases hW hp with h | ⟨w, s, rfl⟩
    · exact h
    · exact Nat.zero_le _

theorem reg_pre (c : Dev nD) : (reg A lv).pre c = iprop(held3 c (A.pn c) (A.pp c) (A.o c) ∗ owesB c) := rfl
theorem reg_post (c : Dev nD) :
    (reg A lv).post c = iprop(held3 c ((dat A c).arrAt 0 cfg2.N) ((dat A c).arrAt 1 cfg2.N) ((dat A c).arrAt 2 cfg2.N) ∗ owesB c) := rfl

/-! ## The region as one step of @main -/

/-- The mesh has one device. -/
theorem dev_eq (d c : Dev nD) : d = c := Subsingleton.elim d c

/-- One device's three arrays as a family over the devices. -/
def Arrs.of (d : Dev nD) (pn : Buf (Elt F) ((d : Thread nD τ).loc main_v3)) (pp : Buf (Elt F) ((d : Thread nD τ).loc main_v4))
    (o : Buf (Elt F) ((d : Thread nD τ).loc main_v5)) : Arrs F where
  pn c := cast (congrArg (fun c : Dev nD => Buf (Elt F) ((c : Thread nD τ).loc main_v3)) (dev_eq d c)) pn
  pp c := cast (congrArg (fun c : Dev nD => Buf (Elt F) ((c : Thread nD τ).loc main_v4)) (dev_eq d c)) pp
  o c := cast (congrArg (fun c : Dev nD => Buf (Elt F) ((c : Thread nD τ).loc main_v5)) (dev_eq d c)) o

theorem Arrs.of_pn (d : Dev nD) (pn : Buf (Elt F) ((d : Thread nD τ).loc main_v3)) (pp : Buf (Elt F) ((d : Thread nD τ).loc main_v4))
    (o : Buf (Elt F) ((d : Thread nD τ).loc main_v5)) : (Arrs.of d pn pp o).pn d = pn := rfl
theorem Arrs.of_pp (d : Dev nD) (pn : Buf (Elt F) ((d : Thread nD τ).loc main_v3)) (pp : Buf (Elt F) ((d : Thread nD τ).loc main_v4))
    (o : Buf (Elt F) ((d : Thread nD τ).loc main_v5)) : (Arrs.of d pn pp o).pp d = pp := rfl
theorem Arrs.of_o (d : Dev nD) (pn : Buf (Elt F) ((d : Thread nD τ).loc main_v3)) (pp : Buf (Elt F) ((d : Thread nD τ).loc main_v4))
    (o : Buf (Elt F) ((d : Thread nD τ).loc main_v5)) : (Arrs.of d pn pp o).o d = o := rfl

set_option maxHeartbeats 1000000 in
set_option backward.isDefEq.respectTransparency.types false in
/-- The TensorCore kernel's line of @main, on the TensorCore of device `d`: from the region boundary, the level
    facts, the pipeline's staging cells' launch ghost state and duty tokens, the TensorCore owing nothing, and the
    three windowed arrays whole — the two inputs at `pn`, `pp`, the result at anything —, the call runs to the
    boundary again, the TensorCore still owing nothing, the inputs as they were and the result's one element at
    `k2_pay1 (k2_pay3 pn) (k2_pay4 pp)`. -/
theorem wp_loss_region (d : Dev nD) (pn : Buf (Elt F) ((d : Thread nD τ).loc main_v3)) (pp : Buf (Elt F) ((d : Thread nD τ).loc main_v4))
    (o : Buf (Elt F) ((d : Thread nD τ).loc main_v5)) (Φ : PUnit → sProp 𝕄) :
    iprop(boundary (T d) ∗ levAts (K (F := F)).L lv
        ∗ Pipeline.cellsGhost cfgs (EP (F := F)) 0 d ∗ Pipeline.toksInit cfgs (EP (F := F)) 0 d
        ∗ owesB d ∗ held3 d pn pp o
        ∗ (iprop(boundary (T d) ∗ owesB d ∗ held3 d pn pp (lossOf pn pp)) -∗ Φ ⟨⟩))
      ⊢ wp frame (wpE ((K (F := F)).defs D) 𝒱 (T d) none) Set.univ
          (Prog.lift (.customCall (SparseCore.inner (Pipeline.entry 0)) ())) Φ := by
  have hlift := (K (F := F)).wp_liftProg (D (F := F)) 𝒱 (T d) (Set.univ : Set ℕ) none
    (Prog.op (.customCall (Pipeline.entry (0 : Fin 1)) ()) fun _ => Prog.ret PUnit.unit) Φ
  have hreg := Pipeline.RegionSeg.wp (pcfgs (F := F)) adm (pdats (Arrs.of d pn pp o)) none cellOf_inj (EP (F := F)) defs₀ 𝒱₀
    (K (F := F)).L lv (reg (Arrs.of d pn pp o) lv) d none (fun _ h => nomatch h) (fun _ => Prog.ret PUnit.unit) Φ
  rw [reg_pre, reg_post] at hreg
  refine BIBase.Entails.trans ?_ hlift
  refine BIBase.Entails.trans ?_ hreg
  iintro ⟨Hb, #Hla, Hg, Ht, HO, Hh, Hk⟩
  isplitl [Hk]
  · iintro ⟨Hb, Hh, HO⟩
    rw [wp_ret, arrAt0, arrAt1, arrAt2]
    imodintro
    iapply Hk
    isplitl [Hb]; · iexact Hb
    isplitl [HO]; · iexact HO
    iexact Hh
  isplitl [Hb]; · iexact Hb
  isplitl [Hh HO]
  · isplitl [Hh]; · iexact Hh
    iexact HO
  isplitr; · iexact Hla
  isplitl [Hg]; · iexact Hg
  iexact Ht

end Cert.Proof.KernelRegion

end
-- ==== Proof.KernelMain.lean ====
/-
  @main on a device's TensorCore, against the launch theorem: the negatives flattened; the first SparseCore call
  handed the context words, the flattened negatives, the table `eu` as one read token per worker and its two
  results, all whole, and getting them back with the results at their values; the second call likewise with
  the centre words, the table `ev`, the context rows the first call left and its result; the two results read as
  rows of 128; the loss kernel's region; its one word read as a scalar. The arguments come through unchanged and
  the result holds the loss kernel's value of the two partial-product arrays.
-/
import proofs.«218857_g62938450756068_cont_9to1c4b_813_41_alg».proof.Proof.KernelShares
import proofs.«218857_g62938450756068_cont_9to1c4b_813_41_alg».proof.Proof.KernelElem
import proofs.«218857_g62938450756068_cont_9to1c4b_813_41_alg».proof.Proof.KernelOut
import proofs.«218857_g62938450756068_cont_9to1c4b_813_41_alg».proof.Proof.KRegion

noncomputable section

namespace Cert.Proof.KernelMain

open Cert.Kernel Cert.Kernel.Gen Cert.Proof.KernelBase Cert.Proof.KernelPay Cert.Proof.KernelElem Cert.Proof.KernelShares Cert.Proof.KernelOut Cert.Proof.KernelRegion

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.TcCoe
open Cert.Regroup Cert.Slices

variable {F : FTy → Type}

local notation "𝕄" => MT nD τ sig (HIx 2) (Elt F) ℕ UU ℕ

variable (m : (ℓ : Loc nD τ sig) → Buf (Elt F) ℓ) (ρ : Dev nD → PrngReg)

/-! ## A host reshape over its two arrays -/

section Reshape

variable [FloatOps F] (d : Dev nD) (x y : Ref sig .tc) (he : x.ty.elt = y.ty.elt) (hn : x.ty.shape.ShapeCasts y.ty.shape)
  (hx : x.space ≠ .host ∧ (x : DevRef τ sig).isScoped = false) (hy : y.space ≠ .host ∧ (y : DevRef τ sig).isScoped = false)

abbrev x' : DevRef τ sig := Proc.devRef .tc x
abbrev y' : DevRef τ sig := Proc.devRef .tc y

/-- The valuation that holds `fx` at `x`, `fy` at `y` and the launch contents elsewhere. -/
def Vxy (fx : Buf (Elt F) ((T d : Thread nD τ).loc x)) (fy : Buf (Elt F) ((T d : Thread nD τ).loc y)) : Valuation τ sig (Elt F) :=
  Function.update (Function.update (fun b => m (d, b)) (x' x) fx) (y' y) fy

theorem Vxy_y (fx) (fy) : Vxy m d x y fx fy (y' y) = fy := Function.update_self _ _ _
theorem Vxy_x (hxy : x ≠ y) (fx) (fy) : Vxy m d x y fx fy (x' x) = fx := by
  unfold Vxy
  rw [Function.update_of_ne (fun e => hxy (Proc.devRef_injective _ e)), Function.update_self]

theorem held_pair (hxy : x ≠ y) (W : Valuation τ sig (Elt F)) :
    (held (T d : Thread nD τ) ({x' x, y' y} : Finset (DevRef τ sig)) W : sProp 𝕄)
      = iprop(((T d : Thread nD τ).loc x ↦{fullShare} W (x' x)) ∗ (T d : Thread nD τ).loc y ↦{fullShare} W (y' y)) := by
  unfold held
  rw [SparseCore.bigSep_insert' (by
    rw [Finset.mem_singleton]; exact fun e => hxy (Proc.devRef_injective _ e)), bigSep_singleton]

include m in
/-- After the reshape the pair is `x` as it was and `y` at `x` recast. -/
theorem held_result (hxy : x ≠ y) (fx : Buf (Elt F) ((T d : Thread nD τ).loc x)) (fy : Buf (Elt F) ((T d : Thread nD τ).loc y)) :
    (held (T d : Thread nD τ) ({x' x, y' y} : Finset (DevRef τ sig)) ((StableHlo.reshape x y he hn hx hy).result (Vxy m d x y fx fy)) : sProp 𝕄)
      = iprop(((T d : Thread nD τ).loc x ↦{fullShare} fx) ∗ (T d : Thread nD τ).loc y ↦{fullShare} (fun i => he ▸ shapeCast y.ty.shape fx hn i)) := by
  rw [held_pair d x y hxy, StableHlo.reshape_result_ne' he hn hx hy _ hxy, StableHlo.reshape_result' he hn hx hy, Vxy_x m d x y hxy]

include m in
/-- A reshape of `x` into `y`, the two arrays held whole: `x` is kept and `y` is `x` recast. -/
theorem wp_reshape (hxy : x ≠ y) (fx : Buf (Elt F) ((T d : Thread nD τ).loc x)) (fy : Buf (Elt F) ((T d : Thread nD τ).loc y))
    (Φ : PUnit → sProp 𝕄) :
    iprop(boundary (T d : Thread nD τ) ∗ ((T d : Thread nD τ).loc x ↦{fullShare} fx) ∗ ((T d : Thread nD τ).loc y ↦{fullShare} fy)
        ∗ ((boundary (T d : Thread nD τ) ∗ ((T d : Thread nD τ).loc x ↦{fullShare} fx)
            ∗ ((T d : Thread nD τ).loc y ↦{fullShare} (fun i => he ▸ shapeCast y.ty.shape fx hn i))) -∗ Φ ⟨⟩))
      ⊢ wp frame (wpE ((K (F := F)).defs (D (F := F))) 𝒱 (T d : Thread nD τ) none) Set.univ
          (hlo rfl (StableHlo.reshape x y he hn hx hy) (fun _ => .ret ⟨⟩)) Φ := by
  iintro ⟨Hb, Hx, Hy, Hk⟩
  iapply (wp_hlo_within 𝒱 (T d : Thread nD τ) none Set.univ (op := StableHlo.reshape x y he hn hx hy)
    (S := ({x' x, y' y} : Finset (DevRef τ sig))) (Finset.Subset.refl _) (V := Vxy m d x y fx fy)) $$ [Hb Hx Hy]
  · isplitl [Hb]; · iexact Hb
    rw [held_pair d x y hxy, Vxy_x m d x y hxy, Vxy_y]
    isplitl [Hx]; · iexact Hx
    iexact Hy
  iintro ⟨Hb, Hh⟩
  ihave Hh2 := (Entails.of_eq (held_result m d x y he hn hx hy hxy fx fy)) $$ Hh
  icases Hh2 with ⟨Hx, Hy⟩
  rw [wp_ret]; imodintro
  iapply Hk
  isplitl [Hb]; · iexact Hb
  isplitl [Hx]; · iexact Hx
  iexact Hy

end Reshape

/-! ## @main -/

section Main

variable [FloatOps F]

/-- The TensorCore's unscoped arrays, one by one. -/
theorem bufs_eq (d : Dev nD) (W : (b : Ref sig .tc) → Buf (Elt F) ((d.tc : Thread nD τ).loc b)) :
    (unscopedBufs d W : sProp 𝕄)
      = iprop((centerLoc d ↦{fullShare} W main_arg0) ∗ (ctxLoc d ↦{fullShare} W main_arg1) ∗ (negLoc d ↦{fullShare} W main_arg2)
          ∗ (evLoc d ↦{fullShare} W main_arg3) ∗ (euLoc d ↦{fullShare} W main_arg4) ∗ (negFlatLoc d ↦{fullShare} W main_v0)
          ∗ (pnegLoc d ↦{fullShare} W main_v1_0) ∗ (urowsLoc d ↦{fullShare} W main_v1_1) ∗ (pposLoc d ↦{fullShare} W main_v2)
          ∗ ((T d : Thread nD τ).loc main_v3 ↦{fullShare} W main_v3) ∗ ((T d : Thread nD τ).loc main_v4 ↦{fullShare} W main_v4)
          ∗ ((T d : Thread nD τ).loc main_v5 ↦{fullShare} W main_v5) ∗ ((T d : Thread nD τ).loc main_v6 ↦{fullShare} W main_v6)) := by
  unfold unscopedBufs
  rw [show (Finset.univ.filter fun b : Ref sig .tc => ¬ b.isScoped)
      = {main_arg0, main_arg1, main_arg2, main_arg3, main_arg4, main_v0, main_v1_0, main_v1_1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What the TensorCore owes and has recorded once both calls are over: nothing owed. -/
theorem tcSt_end (d : Dev nD) :
    ((K (F := F)).tcSt EH d 2 : sProp 𝕄)
      = iprop(owesB (F := F) d ∗ (atPos EH ((K (F := F)).doneCell d) 2 ∅ 0 ∗ reached EH ((K (F := F)).doneCell d) 2
          ∗ (bigSep Finset.univ fun c : Fin τ.nSC => reached EH ((K (F := F)).startCell d c) ((K (F := F)).sRank c 2))
          ∗ bigSep (SparseCore.Cfg.callsFrom 2) fun q => bigSep Finset.univ fun c : Fin ((K (F := F)).nCore q) =>
              iprop(dutyTok EH ((K (F := F)).startCell d ((K (F := F)).core q c)) ((K (F := F)).sRank ((K (F := F)).core q c) q.val) 0
                ∗ cred (tallyAt ((K (F := F)).doneCell d) (some q) 1)))) := by
  unfold SparseCore.Cfg.tcSt
  rw [(K (F := F)).Otc_end d le_rfl]

/-- What @main leaves the claim: the result at its value and the five arguments at their launch contents. -/
abbrev FIN (d : Dev nD) : sProp 𝕄 :=
  iprop(((T d : Thread nD τ).loc main_v6 ↦{fullShare} outF m d) ∗ (centerLoc d ↦{fullShare} m (centerLoc d)) ∗ (ctxLoc d ↦{fullShare} m (ctxLoc d))
    ∗ (negLoc d ↦{fullShare} m (negLoc d)) ∗ (evLoc d ↦{fullShare} m (evLoc d)) ∗ (euLoc d ↦{fullShare} m (euLoc d)))

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (T d : Thread nD τ) none) Set.univ (main d)
          fun _ => iprop((K (F := F)).tcSt EH d 2 ∗ FIN m d) := by
  unfold SparseCore.Cfg.tcRes G
  rw [bufs_eq]
  simp only [main, wp_bind, wp_pure]
  iintro ⟨#Hctx, Hst, ⟨Hb, ⟨H0, H1, H2, H3, H4, Hv0, Hv10, Hv11, Hv2, Hv3, Hv4, Hv5, Hv6⟩, -, -⟩, ⟨Hcg, Htk⟩⟩
  ihave Hlv := (SparseCore.Cfg.ctx_levAts κ) $$ Hctx
  -- the negatives flattened
  iapply (wp_reshape m d main_arg2 main_v0 rfl Shapes1.Facts₀.shapeCasts_S16384x5_S81920 ⟨by decide, rfl⟩ ⟨by decide, rfl⟩ (by decide) _ _ _)
    $$ [Hst Hb H0 H1 H2 H3 H4 Hv0 Hv10 Hv11 Hv2 Hv3 Hv4 Hv5 Hv6 Hcg Htk Hlv]
  isplitl [Hb]; · iexact Hb
  isplitl [H2]; · iexact H2
  isplitl [Hv0]; · iexact Hv0
  iintro ⟨Hb, H2, Hv0⟩
  -- the first call: the table as read tokens, the arrays whole
  ihave H4s := (table_tokens fullShare (m (euLoc d))).1 $$ H4
  icases H4s with ⟨H4d, H4t⟩
  iapply ((K (F := F)).wp_run (D (F := F)) 𝒱 (EH := EH) (P := P m) κ d 0)
    $$ [Hst Hb H0 H1 H2 H3 H4d H4t Hv0 Hv10 Hv11 Hv2 Hv3 Hv4 Hv5 Hv6 Hcg Htk Hlv]
  isplitr; · iexact Hctx
  isplitl [Hst]; · iexact Hst
  isplitl [H1 Hv0 H4t Hv10 Hv11]
  · rw [st0_eq]
    isplitl [H1]; · iexact H1
    isplitl [Hv0]; · iexact Hv0
    isplitl [H4t]; · iexact H4t
    isplitl [Hv10]; · iexact Hv10
    iexact Hv11
  iintro ⟨Hst, Hdn⟩
  ihave Hdn' := (Entails.of_eq (dn0_eq m d)) $$ Hdn
  icases Hdn' with ⟨H1, Hv0, H4t, Hv10, Hv11⟩
  ihave H4 := (table_tokens fullShare (m (euLoc d))).2 $$ [H4d H4t]
  · isplitl [H4d]; · iexact H4d
    iexact H4t
  -- the second call
  ihave H3s := (table_tokens fullShare (m (evLoc d))).1 $$ H3
  icases H3s with ⟨H3d, H3t⟩
  iapply ((K (F := F)).wp_run (D (F := F)) 𝒱 (EH := EH) (P := P m) κ d 1)
    $$ [Hst Hb H0 H1 H2 H3d H3t H4 Hv0 Hv10 Hv11 Hv2 Hv3 Hv4 Hv5 Hv6 Hcg Htk Hlv]
  isplitr; · iexact Hctx
  isplitl [Hst]; · iexact Hst
  isplitl [H0 H3t Hv11 Hv2]
  · rw [st1_eq]
    isplitl [H0]; · iexact H0
    isplitl [H3t]; · iexact H3t
    isplitl [Hv11]; · iexact Hv11
    iexact Hv2
  iintro ⟨Hst, Hdn⟩
  ihave Hdn' := (Entails.of_eq (dn1_eq m d)) $$ Hdn
  icases Hdn' with ⟨H0, H3t, Hv11, Hv2⟩
  ihave H3 := (table_tokens fullShare (m (evLoc d))).2 $$ [H3d H3t]
  · isplitl [H3d]; · iexact H3d
    iexact H3t
  -- the two results as rows of 128
  iapply (wp_reshape m d main_v1_0 main_v3 rfl Shapes1.Facts₀.shapeCasts_S1310720_S10240x128 ⟨by decide, rfl⟩ ⟨by decide, rfl⟩ (by decide) _ _ _)
    $$ [Hst Hb H0 H1 H2 H3 H4 Hv0 Hv10 Hv11 Hv2 Hv3 Hv4 Hv5 Hv6 Hcg Htk Hlv]
  isplitl [Hb]; · iexact Hb
  isplitl [Hv10]; · iexact Hv10
  isplitl [Hv3]; · iexact Hv3
  iintro ⟨Hb, Hv10, Hv3⟩
  iapply (wp_reshape m d main_v2 main_v4 rfl Shapes1.Facts₀.shapeCasts_S262144_S2048x128 ⟨by decide, rfl⟩ ⟨by decide, rfl⟩ (by decide) _ _ _)
    $$ [Hst Hb H0 H1 H2 H3 H4 Hv0 Hv10 Hv11 Hv2 Hv3 Hv4 Hv5 Hv6 Hcg Htk Hlv]
  isplitl [Hb]; · iexact Hb
  isplitl [Hv2]; · iexact Hv2
  isplitl [Hv4]; · iexact Hv4
  iintro ⟨Hb, Hv2, Hv4⟩
  -- the loss kernel's region
  ihave Hst' := (Entails.of_eq (show ((K (F := F)).tcSt EH d ((1 : Fin 2).val + 1) : sProp 𝕄) = _ from tcSt_end (F := F) d)) $$ Hst
  icases Hst' with ⟨HO, Hrest⟩
  iapply (wp_loss_region (F := F) (K (F := F)).lev d _ _ _ _)
    $$ [HO Hrest Hb H0 H1 H2 H3 H4 Hv0 Hv10 Hv11 Hv2 Hv3 Hv4 Hv5 Hv6 Hcg Htk Hlv]
  isplitl [Hb]; · iexact Hb
  isplitl [Hlv]; · iexact Hlv
  isplitl [Hcg]; · iexact Hcg
  isplitl [Htk]; · iexact Htk
  isplitl [HO]; · iexact HO
  isplitl [Hv3 Hv4 Hv5]
  · isplitl [Hv3]; · iexact Hv3
    isplitl [Hv4]; · iexact Hv4
    iexact Hv5
  iintro ⟨Hb, HO, Hv3, Hv4, Hv5⟩
  -- its word read as the scalar result
  iapply (wp_reshape m d main_v5 main_v6 rfl Shapes1.Facts₀.shapeCasts_S1x1_S_ ⟨by decide, rfl⟩ ⟨by decide, rfl⟩ (by decide) _ _ _)
    $$ [HO Hrest Hb H0 H1 H2 H3 H4 Hv0 Hv10 Hv11 Hv2 Hv3 Hv4 Hv5 Hv6]
  isplitl [Hb]; · iexact Hb
  isplitl [Hv5]; · iexact Hv5
  isplitl [Hv6]; · iexact Hv6
  iintro ⟨Hb, Hv5, Hv6⟩
  imodintro
  isplitl [HO Hrest]
  · iapply (Entails.of_eq (tcSt_end (F := F) d).symm)
    isplitl [HO]; · iexact HO
    iexact Hrest
  isplitl [Hv6]; · iexact Hv6
  isplitl [H0]; · iexact H0
  isplitl [H1]; · iexact H1
  isplitl [H2]; · iexact H2
  isplitl [H3]; · iexact H3
  iexact H4

end Main

end Cert.Proof.KernelMain

end
-- ==== Proof.KernelRun.lean ====
/-
  The kernel program's run: the launch theorem applied to the two vector-subcore obligations, the split of a
  SparseCore's share among its subcores, the launch element, @main on the TensorCore, and how the final memory
  reads the result and the arguments off what @main leaves.
-/
import proofs.«218857_g62938450756068_cont_9to1c4b_813_41_alg».proof.Proof.KernelMain

noncomputable section

namespace Cert.Proof.KernelRun

open Cert.Kernel Cert.Kernel.Gen Cert.Proof.KernelBase Cert.Proof.KernelPay Cert.Proof.KernelElem Cert.Proof.KernelOut Cert.Proof.KernelMain

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable (m : (ℓ : Loc nD τ sig) → Buf (Elt F) ℓ) (ρ : Dev nD → PrngReg)

/-- An array held whole at `f` reads `f` in the state. -/
theorem agree_at (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

variable [FloatOps F]

/-- What the final memory says on device `d`: the result at its value, the arguments as they were. -/
def fq (d : Dev nD) (s' : Phys nD τ sig (Elt F)) : Prop :=
  s'.mem.mem ((d.tc : Thread nD τ).loc main_v6) = outF m d
    ∧ s'.mem.mem ((d.tc : Thread nD τ).loc main_arg0) = m ((d.tc : Thread nD τ).loc main_arg0)
    ∧ s'.mem.mem ((d.tc : Thread nD τ).loc main_arg1) = m ((d.tc : Thread nD τ).loc main_arg1)
    ∧ s'.mem.mem ((d.tc : Thread nD τ).loc main_arg2) = m ((d.tc : Thread nD τ).loc main_arg2)
    ∧ s'.mem.mem ((d.tc : Thread nD τ).loc main_arg3) = m ((d.tc : Thread nD τ).loc main_arg3)
    ∧ s'.mem.mem ((d.tc : Thread nD τ).loc main_arg4) = m ((d.tc : Thread nD τ).loc main_arg4)

theorem hfin (d : Dev nD) (s' : Phys nD τ sig (Elt F)) : iprop(FIN m d ∗ SI s') ⊢ (⌜fq m d s'⌝ : sProp 𝕄) := by
  have h6 : iprop(FIN m d ∗ SI s') ⊢ (⌜s'.mem.mem ((d.tc : Thread nD τ).loc main_v6) = outF m d⌝ : sProp 𝕄) := by
    iintro ⟨⟨H, -⟩, HSI⟩; iapply (agree_at _ _ s'); isplitl [H] <;> iassumption
  have h0 : iprop(FIN m d ∗ SI s') ⊢ (⌜s'.mem.mem ((d.tc : Thread nD τ).loc main_arg0) = m ((d.tc : Thread nD τ).loc main_arg0)⌝ : sProp 𝕄) := by
    iintro ⟨⟨-, H, -⟩, HSI⟩; iapply (agree_at _ _ s'); isplitl [H] <;> iassumption
  have h1 : iprop(FIN m d ∗ SI s') ⊢ (⌜s'.mem.mem ((d.tc : Thread nD τ).loc main_arg1) = m ((d.tc : Thread nD τ).loc main_arg1)⌝ : sProp 𝕄) := by
    iintro ⟨⟨-, -, H, -⟩, HSI⟩; iapply (agree_at _ _ s'); isplitl [H] <;> iassumption
  have h2 : iprop(FIN m d ∗ SI s') ⊢ (⌜s'.mem.mem ((d.tc : Thread nD τ).loc main_arg2) = m ((d.tc : Thread nD τ).loc main_arg2)⌝ : sProp 𝕄) := by
    iintro ⟨⟨-, -, -, H, -⟩, HSI⟩; iapply (agree_at _ _ s'); isplitl [H] <;> iassumption
  have h3 : iprop(FIN m d ∗ SI s') ⊢ (⌜s'.mem.mem ((d.tc : Thread nD τ).loc main_arg3) = m ((d.tc : Thread nD τ).loc main_arg3)⌝ : sProp 𝕄) := by
    iintro ⟨⟨-, -, -, -, H, -⟩, HSI⟩; iapply (agree_at _ _ s'); isplitl [H] <;> iassumption
  have h4 : iprop(FIN m d ∗ SI s') ⊢ (⌜s'.mem.mem ((d.tc : Thread nD τ).loc main_arg4) = m ((d.tc : Thread nD τ).loc main_arg4)⌝ : sProp 𝕄) := by
    iintro ⟨⟨-, -, -, -, -, H⟩, HSI⟩; iapply (agree_at _ _ s'); isplitl [H] <;> iassumption
  exact fun a h => show fq m d s' from ⟨h6 a h, h0 a h, h1 a h, h2 a h, h3 a h, h4 a h⟩

/-- The program's run, from the two vector-subcore obligations. -/
theorem run_of_obl [∀ e, Nonempty (Elt F e)]
    (hobl0 : (K (F := F)).TileObl (D (F := F)) 𝒱 (P m) v₀ 0) (hobl1 : (K (F := F)).TileObl (D (F := F)) 𝒱 (P m) v₀ 1) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq | 1 => nomatch hq)
    (fun q _ => match q with | 0 => hobl0 | 1 => hobl1)
    (fun q _ => match q with
      | 0 => SparseCore.Cfg.VecSplit.of_plain (vecSplit m 0)
      | 1 => SparseCore.Cfg.VecSplit.of_plain (vecSplit m 1))
    m ρ main (G (F := F)) (FIN m) (u₀ (F := F)) (sep_elim_left.trans (hu₀ m)) (hmain m ρ) (fq m) (hfin m) (QC m) (fun _ h => h)

end Cert.Proof.KernelRun

end
-- ==== Proof.KernelStmt.lean ====
/-
  What remains to be proved of a vector subcore's task, stated once per kernel as a proposition, and the
  program's run from the two: the first kernel's task at a symbolic subcore takes its share of call 0 to the
  same share with the two result slices at their values; the second kernel's likewise for call 1.
-/
import proofs.«218857_g62938450756068_cont_9to1c4b_813_41_alg».proof.Proof.KernelObl
import proofs.«218857_g62938450756068_cont_9to1c4b_813_41_alg».proof.Proof.KernelRun

noncomputable section

namespace Cert.Proof.KernelStmt

open Cert.Kernel Cert.Kernel.Gen Cert.Proof.KernelBase Cert.Proof.KernelPay Cert.Proof.KernelBodies Cert.Proof.KernelOut

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (ρ : Dev nD → PrngReg)

/-- The first kernel's task on the subcore at grid coordinates `L`. -/
def BodyU : Prop :=
  ∀ (d : Dev nD) (L : grid0.Coords) (O : CellTallies nD τ sig (HIx 2)) (W : Waits sig (HIx 2)), (∀ g, O g none = 0) →
    iprop(levAts (K (F := F)).L (K (F := F)).lev ∗ emp ∗ KTileU.goU m d L (negFlatF m d) (m (pnegLoc d)) (m (urowsLoc d))
        ∗ scopedBufs (V d (KTileU.cV L) (KTileU.jV L)) ∗ scopedSems0 (V d (KTileU.cV L) (KTileU.jV L))
        ∗ owes (V d (KTileU.cV L) (KTileU.jV L)) O W)
      ⊢ wp frame (wpE (defs₀ (F := F)) 𝒱₀ (V d (KTileU.cV L) (KTileU.jV L)) none) Set.univ (bodyU (F := F) L)
          fun _ => (iprop(KTileU.tdU m d L (negFlatF m d) ∗ scopedBufs (V d (KTileU.cV L) (KTileU.jV L)) ∗ scopedSems0 (V d (KTileU.cV L) (KTileU.jV L))
            ∗ ∃ W', ⌜∀ p ∈ W', p ∈ W ∨ p.2 = none⌝ ∗ owes (V d (KTileU.cV L) (KTileU.jV L)) O W') : sProp 𝕄)

/-- The second kernel's task on the subcore at grid coordinates `L`. -/
def BodyV : Prop :=
  ∀ (d : Dev nD) (L : grid1.Coords) (O : CellTallies nD τ sig (HIx 2)) (W : Waits sig (HIx 2)), (∀ g, O g none = 0) →
    iprop(levAts (K (F := F)).L (K (F := F)).lev ∗ emp ∗ KTileVDefs.goV m d L (KTileU.urowsF m d) (m (pposLoc d))
        ∗ scopedBufs (V d (KTileVDefs.cV L) (KTileVDefs.jV L)) ∗ scopedSems0 (V d (KTileVDefs.cV L) (KTileVDefs.jV L))
        ∗ owes (V d (KTileVDefs.cV L) (KTileVDefs.jV L)) O W)
      ⊢ wp frame (wpE (defs₀ (F := F)) 𝒱₀ (V d (KTileVDefs.cV L) (KTileVDefs.jV L)) none) Set.univ (bodyV (F := F) L)
          fun _ => (iprop(KTileVDefs.tdV m d L (KTileU.urowsF m d) ∗ scopedBufs (V d (KTileVDefs.cV L) (KTileVDefs.jV L)) ∗ scopedSems0 (V d (KTileVDefs.cV L) (KTileVDefs.jV L))
            ∗ ∃ W', ⌜∀ p ∈ W', p ∈ W ∨ p.2 = none⌝ ∗ owes (V d (KTileVDefs.cV L) (KTileVDefs.jV L)) O W') : sProp 𝕄)

/-- The program's run from the two tasks. -/
theorem run_of_bodies [∀ e, Nonempty (Elt F e)] (hU : BodyU m) (hV : BodyV m) :
    θ_run (Cert.Kernel.defs (F := F)) (Cert.Kernel.threads (F := F)) ⟨m, fun _ => 0, ρ⟩ (QC m) :=
  KernelRun.run_of_obl m ρ (KernelObl.tileObl0 m hU) (KernelObl.tileObl1 m hV)

end Cert.Proof.KernelStmt

end
-- ==== Proof.Assembly.lean ====
/-
  The certificate's claim from the vector subcores' tasks. Given each kernel's task at a symbolic subcore, at the
  extended reals and at words, under the bounds on the index words, the five conjuncts follow: the word-level
  program's frame and the idealized program's frame from their runs; the reference's frame from its run; the
  idealization rewrote nothing; and the two idealized programs end at the same loss, the kernel's by its run and the
  value of what its three kernels leave, the reference's by its run read as the same function.
-/
import proofs.«218857_g62938450756068_cont_9to1c4b_813_41_alg».proof.Defs
import proofs.«218857_g62938450756068_cont_9to1c4b_813_41_alg».proof.Proof.Gen.Kernel
import proofs.«218857_g62938450756068_cont_9to1c4b_813_41_alg».proof.Proof.Gen.KernelIdeal
import proofs.«218857_g62938450756068_cont_9to1c4b_813_41_alg».proof.Proof.Gen.ReferenceIdeal
import proofs.«218857_g62938450756068_cont_9to1c4b_813_41_alg».proof.Proof.Gen.Pre_input_domain
import proofs.«218857_g62938450756068_cont_9to1c4b_813_41_alg».proof.Proof.RefFrame
import proofs.«218857_g62938450756068_cont_9to1c4b_813_41_alg».proof.Proof.KernelIdealClaims
import proofs.«218857_g62938450756068_cont_9to1c4b_813_41_alg».proof.Proof.KernelClaims
import proofs.«218857_g62938450756068_cont_9to1c4b_813_41_alg».proof.Proof.KernelIdealStmt
import proofs.«218857_g62938450756068_cont_9to1c4b_813_41_alg».proof.Proof.KernelStmt

noncomputable section

namespace Cert.Proof.Assembly

open Idealize.ShloMosaic Idealize.SL.Sem

theorem claim_of_bodies
    (hUi : ∀ m : (ℓ : Loc Cert.KernelIdeal.nD Cert.KernelIdeal.τ Cert.KernelIdeal.sig) → Buf (Elt Ideal) ℓ,
      Cert.Proof.TileU.PreOKU m → Cert.Proof.KernelIdealStmt.BodyU m)
    (hVi : ∀ m : (ℓ : Loc Cert.KernelIdeal.nD Cert.KernelIdeal.τ Cert.KernelIdeal.sig) → Buf (Elt Ideal) ℓ,
      Cert.Proof.TileVDefs.PreOKV m → Cert.Proof.KernelIdealStmt.BodyV m)
    (hUb : ∀ m : (ℓ : Loc Cert.Kernel.nD Cert.Kernel.τ Cert.Kernel.sig) → Buf (Elt Bits) ℓ,
      Cert.Proof.KTileU.PreOKU m → Cert.Proof.KernelStmt.BodyU m)
    (hVb : ∀ m : (ℓ : Loc Cert.Kernel.nD Cert.Kernel.τ Cert.Kernel.sig) → Buf (Elt Bits) ℓ,
      Cert.Proof.KTileVDefs.PreOKV m → Cert.Proof.KernelStmt.BodyV m) :
    Cert.Claim :=
  ⟨Cert.Kernel.Gen.facts, Cert.KernelIdeal.Gen.facts, Cert.ReferenceIdeal.Gen.facts, Cert.Pre_input_domain.Gen.facts,
    Cert.Proof.KernelClaims.frame_p_of_run (fun m ρ hU hV => Cert.Proof.KernelStmt.run_of_bodies m ρ (hUb m hU) (hVb m hV)),
    Cert.Proof.KernelIdealClaims.frame_pi_of_run (fun m ρ hU hV => Cert.Proof.KernelIdealStmt.run_of_bodies m ρ (hUi m hU) (hVi m hV)),
    Cert.ReferenceIdeal.RefValue.frame_ri,
    trivial,
    Cert.Proof.KernelIdealClaims.algebraic_of_run (fun m ρ hU hV => Cert.Proof.KernelIdealStmt.run_of_bodies m ρ (hUi m hU) (hVi m hV))⟩

end Cert.Proof.Assembly

end
-- ==== Proof.KernelIdealFlat.lean ====
/-
  The host's reshape of the negatives [16384, 5] → [81920] is row-major: entry `5b + k` of the flattened array is
  word `(b, k)`.
-/
import proofs.«218857_g62938450756068_cont_9to1c4b_813_41_alg».proof.Proof.KernelIdealPay
import proofs.«218857_g62938450756068_cont_9to1c4b_813_41_alg».proof.Proof.Reshapes

noncomputable section

namespace Cert.Proof.KernelIdealFlat

open Cert.KernelIdeal Cert.KernelIdeal.Gen Cert.Proof.KernelIdealBase Cert.Proof.KernelIdealPay
open Idealize.ShloMosaic Idealize.ShloMosaic.ValueIdx
open Idealize.SL.Sem

variable {F : FTy → Type}

variable (m : (ℓ : Loc nD τ sig) → Buf (Elt F) ℓ)

theorem isFlat_negFlatF (d : Dev nD) : TileU.IsFlat m d (negFlatF m d) := by
  intro b k
  have hb := b.isLt
  have hk := k.isLt
  have h := Cert.Reshapes.shapeCast_rows_to_flat (a := 16384) (b := 5) (n := 81920)
    (m (negLoc d) : S16384x5.Idx → BitVec 32) Shapes1.Facts₀.shapeCasts_S16384x5_S81920 b k (by omega)
  have e : (⟨5 * b.val + k.val, by omega⟩ : Fin 81920) = ⟨b.val * 5 + k.val, by omega⟩ :=
    Fin.ext (show 5 * b.val + k.val = b.val * 5 + k.val by omega)
  show (negFlatF m d : S81920.Idx → BitVec 32) (ix1 ⟨5 * b.val + k.val, _⟩) = _
  rw [e]
  exact h

end Cert.Proof.KernelIdealFlat

end
-- ==== Proof.TileUScratch.lean ====
/-
  A vector subcore's own scratch: the five buffers and the twelve DMA semaphores the first kernel uses, taken out
  of everything the subcore owns (and put back by the same equations).
-/
import proofs.«218857_g62938450756068_cont_9to1c4b_813_41_alg».proof.Proof.TileUDefs

noncomputable section

namespace Cert.Proof.TileU

open Cert.KernelIdeal Cert.KernelIdeal.Gen Cert.Proof.KernelIdealBase

open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-- The kernel's own semaphore and the eleven of its scoped regions. -/
def semsU : Finset (DmaSem sig) :=
  {cc0_scratch5.sem, cc0_scoped0.sem, cc0_scoped1.sem, cc0_scoped2.sem, cc0_scoped3.sem, cc0_scoped4.sem, cc0_scoped5.sem,
    cc0_scoped6.sem, cc0_scoped7.sem, cc0_scoped8.sem, cc0_scoped9.sem, cc0_scoped10.sem}

/-- A subcore's cell of a DMA semaphore. -/
def cellOf (thr : Thread nD τ) : DmaSem sig ↪ GSem nD τ sig :=
  ⟨fun s => (thr, SemLoc.dma s), fun a b h => by
    have h2 : (SemLoc.dma a : SemLoc sig) = SemLoc.dma b := congrArg Prod.snd h
    injection h2⟩

theorem semsU_scoped : ∀ s ∈ semsU, sig.isScopedDmaSem .scVector s = true := by decide

theorem semsU_sub (d : Dev nD) (c : Fin τ.nSC) (i : Fin τ.nSub) : semsU.map (cellOf (V d c i)) ⊆ ownCells (V d c i) := by
  intro g hg
  obtain ⟨s, hs, rfl⟩ := Finset.mem_map.mp hg
  exact mem_ownCells.mpr ⟨rfl, semsU_scoped s hs⟩

theorem bigSep_semsU (Φ : DmaSem sig → sProp 𝕄) :
    bigSep semsU Φ = iprop(Φ cc0_scratch5.sem ∗ Φ cc0_scoped0.sem ∗ Φ cc0_scoped1.sem ∗ Φ cc0_scoped2.sem ∗ Φ cc0_scoped3.sem ∗ Φ cc0_scoped4.sem
      ∗ Φ cc0_scoped5.sem ∗ Φ cc0_scoped6.sem ∗ Φ cc0_scoped7.sem ∗ Φ cc0_scoped8.sem ∗ Φ cc0_scoped9.sem ∗ Φ cc0_scoped10.sem) := by
  unfold semsU
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The subcore's semaphores at zero: the twelve, and the rest. -/
theorem ownSems0_V (d : Dev nD) (c : Fin τ.nSC) (i : Fin τ.nSub) :
    (ownSems0 (V d c i) : sProp 𝕄)
      = iprop(bigSep semsU (fun s => semVal ((V d c i, SemLoc.dma s) : GSem nD τ sig) 0)
          ∗ bigSep (ownCells (V d c i) \ semsU.map (cellOf (V d c i))) fun g => semVal g 0) := by
  unfold SparseCore.Cfg.ownSems0
  rw [SparseCore.bigSep_sdiff_split' (semsU_sub d c i), BI.bigSep_map]
  rfl

/-- The five scratch buffers. -/
def bufsU : Finset (Ref sig .scVector) := {cc0_scratch0, cc0_scratch1, cc0_scratch2, cc0_scratch3, cc0_scratch4}

def refOf (c : Fin τ.nSC) (i : Fin τ.nSub) : Ref sig .scVector ↪ DevRef τ sig :=
  ⟨(Proc.scVector c i).devRef, Proc.devRef_injective _⟩

theorem bufsU_sub (c : Fin τ.nSC) (i : Fin τ.nSub) : bufsU.map (refOf c i) ⊆ ownRefs (τ := τ) (sig := sig) (.scVector c i) := by
  intro b hb
  obtain ⟨r, hr, rfl⟩ := Finset.mem_map.mp hb
  have : ∀ r ∈ bufsU, ((Proc.scVector c i).devRef r).owner = .proc (Proc.scVector c i) := by
    intro r hr
    simp only [bufsU, Finset.mem_insert, Finset.mem_singleton] at hr
    rcases hr with rfl | rfl | rfl | rfl | rfl <;> rfl
  exact SparseCore.Cfg.mem_ownRefs_of_owner (this r hr)

theorem bigSep_bufsU (Φ : Ref sig .scVector → sProp 𝕄) :
    bigSep bufsU Φ = iprop(Φ cc0_scratch0 ∗ Φ cc0_scratch1 ∗ Φ cc0_scratch2 ∗ Φ cc0_scratch3 ∗ Φ cc0_scratch4) := by
  unfold bufsU
  rw [SparseCore.bigSep_insert' (by decide), SparseCore.bigSep_insert' (by decide), SparseCore.bigSep_insert' (by decide),
    SparseCore.bigSep_insert' (by decide), bigSep_singleton]

/-- The subcore's buffers: the five scratch buffers at some contents, and the rest. -/
theorem ownBufs_V (d : Dev nD) (c : Fin τ.nSC) (i : Fin τ.nSub) :
    (ownBufs (V d c i) : sProp 𝕄)
      = iprop(bigSep bufsU (fun r => iprop(∃ f, (V d c i).loc r ↦{fullShare} f))
          ∗ bigSep (ownRefs (τ := τ) (sig := sig) (.scVector c i) \ bufsU.map (refOf c i)) fun b => iprop(∃ f, ((d, b) : Loc nD τ sig) ↦{fullShare} f)) := by
  unfold SparseCore.Cfg.ownBufs
  rw [SparseCore.bigSep_sdiff_split' (bufsU_sub c i), BI.bigSep_map]
  rfl

end Cert.Proof.TileU

end
-- ==== Proof.TileUBatch.lean ====
/-
  One chunk's row copies on the kernel's one DMA semaphore, as a counted batch of 384 transfers.

  Transfer t = 6 e + q of a chunk (e < 64 the element, q < 6): q = 0 copies the table row named by the chunk's
  e-th context word into row e of the 64-row staging buffer; q = k + 1 copies the row named by the chunk's
  (5 e + k)-th negative word into row 5 e + k of the 320-row buffer. Rows are issued in increasing order in
  both buffers, so before transfer t the rows not yet issued are the rows from ceil(t / 6) on in the first
  buffer and from 5 (t / 6) + (t mod 6 - 1) on in the second. Each transfer reads the table under its own
  read share (the t-th half of the subcore's share), lends the one row and keeps the rest of that share aside.
-/
import proofs.«218857_g62938450756068_cont_9to1c4b_813_41_alg».proof.Proof.TileUScratch
import Idealize.ShloMosaic.Lib.Ring

noncomputable section

namespace Cert.Proof.TileU

open Cert.KernelIdeal Cert.KernelIdeal.Gen Cert.Proof.KernelIdealBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## Rows as memrefs -/

theorem inbU (e : Fin 64) : ∀ a, (![e.val, 0] : Fin 2 → Nat) a + S1x64.size a ≤ S64x64.size a := by
  have := e.isLt; intro a; fin_cases a
  · show e.val + 1 ≤ 64; omega
  · show 0 + 64 ≤ 64; omega
theorem inbN (r : Fin 320) : ∀ a, (![r.val, 0] : Fin 2 → Nat) a + S1x64.size a ≤ S320x64.size a := by
  have := r.isLt; intro a; fin_cases a
  · show r.val + 1 ≤ 320; omega
  · show 0 + 64 ≤ 64; omega
theorem inbT (r : Fin 1000000) : ∀ a, (![r.val, 0] : Fin 2 → Nat) a + S1x64.size a ≤ S1000000x64.size a := by
  have := r.isLt; intro a; fin_cases a
  · show r.val + 1 ≤ 1000000; omega
  · show 0 + 64 ≤ 64; omega

/-- Row e of the 64-row staging buffer, row r of the 320-row buffer, row r of the table. -/
def uRow (e : Fin 64) : Memref sig .scVector .vmem S64 .f32 :=
  ((Memref.whole cc0_scratch2 : Memref sig .scVector .vmem S64x64 .f32).slice (Rect.unit (s := S64x64) ![e.val, 0] S1x64.size (inbU e)) (fun _ => rfl)).squeeze S64 squeezes_S1x64_S64
def nRow (r : Fin 320) : Memref sig .scVector .vmem S64 .f32 :=
  ((Memref.whole cc0_scratch3 : Memref sig .scVector .vmem S320x64 .f32).slice (Rect.unit (s := S320x64) ![r.val, 0] S1x64.size (inbN r)) (fun _ => rfl)).squeeze S64 squeezes_S1x64_S64
def tRow (r : Fin 1000000) : Memref sig .scVector .hbm S64 .f32 :=
  ((Memref.whole main_arg4_scv : Memref sig .scVector .hbm S1000000x64 .f32).slice (Rect.unit (s := S1000000x64) ![r.val, 0] S1x64.size (inbT r)) (fun _ => rfl)).squeeze S64 squeezes_S1x64_S64

abbrev uRowSet (e : Fin 64) : Finset S64x64.Idx := (Rect.unit (s := S64x64) ![e.val, 0] S1x64.size (inbU e)).set
abbrev nRowSet (r : Fin 320) : Finset S320x64.Idx := (Rect.unit (s := S320x64) ![r.val, 0] S1x64.size (inbN r)).set
abbrev tRowSet (r : Fin 1000000) : Finset S1000000x64.Idx := (Rect.unit (s := S1000000x64) ![r.val, 0] S1x64.size (inbT r)).set

theorem set_uRow (e : Fin 64) : (uRow e).view.set = uRowSet e := by
  unfold uRow; exact (View.set_reshape _ _).trans (View.set_slice_whole _ _)
theorem set_nRow (r : Fin 320) : (nRow r).view.set = nRowSet r := by
  unfold nRow; exact (View.set_reshape _ _).trans (View.set_slice_whole _ _)
theorem set_tRow (r : Fin 1000000) : (tRow r).view.set = tRowSet r := by
  unfold tRow; exact (View.set_reshape _ _).trans (View.set_slice_whole _ _)

theorem mem_uRowSet (e : Fin 64) (y : S64x64.Idx) : y ∈ uRowSet e ↔ (y 0).val = e.val := by
  rw [Rect.mem_set_unit]
  have h1 : (y 1).val < 64 := (y 1).isLt
  constructor
  · intro H; have a0 : e.val ≤ (y 0).val ∧ (y 0).val < e.val + 1 := H 0; omega
  · intro H a; fin_cases a
    · show e.val ≤ (y 0).val ∧ (y 0).val < e.val + 1; omega
    · show 0 ≤ (y 1).val ∧ (y 1).val < 0 + 64; omega
theorem mem_nRowSet (r : Fin 320) (y : S320x64.Idx) : y ∈ nRowSet r ↔ (y 0).val = r.val := by
  rw [Rect.mem_set_unit]
  have h1 : (y 1).val < 64 := (y 1).isLt
  constructor
  · intro H; have a0 : r.val ≤ (y 0).val ∧ (y 0).val < r.val + 1 := H 0; omega
  · intro H a; fin_cases a
    · show r.val ≤ (y 0).val ∧ (y 0).val < r.val + 1; omega
    · show 0 ≤ (y 1).val ∧ (y 1).val < 0 + 64; omega

/-- The rows from a on. -/
def uFrom (a : ℕ) : Finset S64x64.Idx := Finset.univ.filter fun y => a ≤ (y 0).val
def nFrom (a : ℕ) : Finset S320x64.Idx := Finset.univ.filter fun y => a ≤ (y 0).val

theorem uRowSet_sub (e : Fin 64) : uRowSet e ⊆ uFrom e.val := by
  intro y hy; rw [mem_uRowSet] at hy; simp [uFrom]; omega
theorem uFrom_sdiff (e : Fin 64) : uFrom e.val \ uRowSet e = uFrom (e.val + 1) := by
  ext y; simp only [Finset.mem_sdiff, mem_uRowSet, uFrom, Finset.mem_filter, Finset.mem_univ, true_and]; omega
theorem nRowSet_sub (r : Fin 320) : nRowSet r ⊆ nFrom r.val := by
  intro y hy; rw [mem_nRowSet] at hy; simp [nFrom]; omega
theorem nFrom_sdiff (r : Fin 320) : nFrom r.val \ nRowSet r = nFrom (r.val + 1) := by
  ext y; simp only [Finset.mem_sdiff, mem_nRowSet, nFrom, Finset.mem_filter, Finset.mem_univ, true_and]; omega
theorem uFrom_zero : uFrom 0 = Finset.univ := by ext y; simp [uFrom]
theorem nFrom_zero : nFrom 0 = Finset.univ := by ext y; simp [nFrom]

/-! ## The chunk's words, the deliveries, the state between two issues -/

section Chunk

variable (m : (ℓ : Loc nD τ sig) → Buf (Elt F) ℓ) (d : Dev nD) (L : grid0.Coords)
variable (xs : S512.Idx → BitVec 32) (ns : S2560.Idx → BitVec 32) (c : Fin 8)
variable (fu : Buf (Elt F) ((V d (cV L) (jV L)).loc cc0_scratch2)) (fn : Buf (Elt F) ((V d (cV L) (jV L)).loc cc0_scratch3))

/-- The table row the chunk's e-th context word names; the row its r-th negative word names. -/
def xrow (e : ℕ) : Fin 1000000 :=
  ⟨(if h : 64 * c.val + e < 512 then (xs (ix1 ⟨64 * c.val + e, h⟩)).toNat else 0) % 1000000, Nat.mod_lt _ (by decide)⟩
def nrow (r : ℕ) : Fin 1000000 :=
  ⟨(if h : 320 * c.val + r < 2560 then (ns (ix1 ⟨320 * c.val + r, h⟩)).toNat else 0) % 1000000, Nat.mod_lt _ (by decide)⟩

/-- The subcore's read share of the table. -/
abbrev qw : PosShare TreeShare := Transfers.shareTok fullShare 32 (wL L)

abbrev ℓE : Loc nD τ sig := euLoc d

/-- Row e of the staging buffer landed: the table row written over it whole. -/
def landU (e : Fin 64) : Buf (Elt F) ((V d (cV L) (jV L)).loc cc0_scratch2) :=
  (uRow e).view.write (Elt F) fu (ReadAs.same.apply ((tRow (xrow xs c e.val)).view.read (Elt F) (m (euLoc d)))) Finset.univ
def landN (r : Fin 320) : Buf (Elt F) ((V d (cV L) (jV L)).loc cc0_scratch3) :=
  (nRow r).view.write (Elt F) fn (ReadAs.same.apply ((tRow (nrow ns c r.val)).view.read (Elt F) (m (euLoc d)))) Finset.univ

/-- The number of the 320-buffer row transfer t writes (t mod 6 ≠ 0), and of rows of it issued before t. -/
def nIdx (t : ℕ) : ℕ := 5 * (t / 6) + (t % 6 - 1)
/-- The rows of the 64-buffer issued before t. -/
def uIdx (t : ℕ) : ℕ := (t + 5) / 6

theorem nIdx_lt {t : ℕ} (ht : t < 384) : nIdx t < 320 := by unfold nIdx; omega
theorem uDiv_lt {t : ℕ} (ht : t < 384) : t / 6 < 64 := by omega

/-- What transfer t delivers: its destination row landed, its source row back under the transfer's share. -/
def DU (t : Fin 384) : sProp 𝕄 :=
  if t.val % 6 = 0 then
    iprop(((V d (cV L) (jV L)).loc cc0_scratch2 ↦[uRowSet ⟨t.val / 6, uDiv_lt t.isLt⟩]{fullShare} landU m d L xs c fu ⟨t.val / 6, uDiv_lt t.isLt⟩)
      ∗ (euLoc d ↦[tRowSet (xrow xs c (t.val / 6))]{Transfers.shareTokN (qw L) t.val} m (euLoc d)))
  else
    iprop(((V d (cV L) (jV L)).loc cc0_scratch3 ↦[nRowSet ⟨nIdx t.val, nIdx_lt t.isLt⟩]{fullShare} landN m d L ns c fn ⟨nIdx t.val, nIdx_lt t.isLt⟩)
      ∗ (euLoc d ↦[tRowSet (nrow ns c (nIdx t.val))]{Transfers.shareTokN (qw L) t.val} m (euLoc d)))

instance DU_storable (t : Fin 384) : BI.Storable (upEmb : UEmb _ 𝕄) (DU m d L xs ns c fu fn t) := by
  unfold DU; split <;> infer_instance

/-- The source row transfer t reads. -/
def srcRow (t : ℕ) : Fin 1000000 := if t % 6 = 0 then xrow xs c (t / 6) else nrow ns c (nIdx t)

/-- The credit of one row on the semaphore. -/
abbrev NR : ℕ := (uRow 0).view.amount (SemLoc.dma (sig := sig) cc0_scratch5.sem)

/-- The chunk's batch with t issued, u units consumed. -/
abbrev batchU (t u : ℕ) : sProp 𝕄 :=
  Transfers.Batch (countersEmb (U := UU)) (V d (cV L) (jV L)) (.dma cc0_scratch5.sem) (none : HIx 2) NR (DU m d L xs ns c fu fn) t u

/-- The rest of transfer t's read share: the table but the row it lent. -/
def restTok (t : ℕ) : sProp 𝕄 :=
  euLoc d ↦[Finset.univ \ tRowSet (srcRow xs ns c t)]{Transfers.shareTokN (qw L) t} m (euLoc d)

/-- Between two issues: t issued; the rows not yet issued in hand at the buffers' contents; the table under what is
    left of the share after t tokens, and the rests of the t tokens issued. -/
def issueSt (t : ℕ) : sProp 𝕄 :=
  iprop(batchU m d L xs ns c fu fn t 0
    ∗ ((V d (cV L) (jV L)).loc cc0_scratch2 ↦[uFrom (uIdx t)]{fullShare} fu)
    ∗ ((V d (cV L) (jV L)).loc cc0_scratch3 ↦[nFrom (nIdx t)]{fullShare} fn)
    ∗ (euLoc d ↦{Transfers.shareDrop (qw L) t} m (euLoc d))
    ∗ bigSep (Finset.range t) (restTok m d L xs ns c))

end Chunk

end Cert.Proof.TileU

end
-- ==== Proof.TileUIssue.lean ====
/-
  One issue of the chunk's batch: the next row copy, from the state before it to the state after it.
-/
import proofs.«218857_g62938450756068_cont_9to1c4b_813_41_alg».proof.Proof.TileUBatch

noncomputable section

namespace Cert.Proof.TileU

open Cert.KernelIdeal Cert.KernelIdeal.Gen Cert.Proof.KernelIdealBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

section Chunk

variable (m : (ℓ : Loc nD τ sig) → Buf (Elt F) ℓ) (d : Dev nD) (L : grid0.Coords)
variable (xs : S512.Idx → BitVec 32) (ns : S2560.Idx → BitVec 32) (c : Fin 8)
variable (fu : Buf (Elt F) ((V d (cV L) (jV L)).loc cc0_scratch2)) (fn : Buf (Elt F) ((V d (cV L) (jV L)).loc cc0_scratch3))

/-- A word below the table's extent names the row the chunk's table of rows says. -/
theorem soff_u (v : BitVec 32) (e : ℕ) (he : 64 * c.val + e < 512) (hv : v = xs (ix1 ⟨64 * c.val + e, he⟩)) (hlt : v.toNat < 1000000) :
    (![v.toNat, 0] : Fin 2 → ℕ) = ![(xrow xs c e).val, 0] := by
  unfold xrow; simp only [he, ↓reduceDIte, ← hv, Nat.mod_eq_of_lt hlt]
theorem soff_n (v : BitVec 32) (r : ℕ) (hr : 320 * c.val + r < 2560) (hv : v = ns (ix1 ⟨320 * c.val + r, hr⟩)) (hlt : v.toNat < 1000000) :
    (![v.toNat, 0] : Fin 2 → ℕ) = ![(nrow ns c r).val, 0] := by
  unfold nrow; simp only [hr, ↓reduceDIte, ← hv, Nat.mod_eq_of_lt hlt]

/-- The side condition of a row copy out of the table. -/
theorem chk_of_lt (v : BitVec 32) (hlt : v.toNat < 1000000) : ∀ a, (![v.toNat, 0] : Fin 2 → ℕ) a + S1x64.size a ≤ S1000000x64.size a := by
  intro a; fin_cases a
  · show v.toNat + 1 ≤ 1000000; omega
  · show 0 + 64 ≤ 64; omega

/-- A context row's copy (transfer t, t mod 6 = 0): row t / 6 of the staging buffer taken off the rows in hand, the
    table's row under the t-th half of the share, the batch's next transfer issued. -/
theorem issue_u {α : Type} (t t' : ℕ) (ht' : t' = t + 1) (ht : t < 384) (h6 : t % 6 = 0)
    (off : Fin 2 → ℕ) (inb : ∀ a, off a + S1x64.size a ≤ S64x64.size a) (hoff : off = ![t / 6, 0])
    (soff : Fin 2 → ℕ) (sinb : ∀ a, soff a + S1x64.size a ≤ S1000000x64.size a) (hsoff : soff = ![(xrow xs c (t / 6)).val, 0])
    (hs : _) (hd : _) (hty : _)
    (k : PUnit → Prog (TpuEff nD τ sig (Elt F) Λ₀ (.scVector (cV L) (jV L))) α) (Q : α → sProp 𝕄) :
    issueSt m d L xs ns c fu fn t
      ⊢ iprop((issueSt m d L xs ns c fu fn t' -∗ wp frame (wpE (defs₀ (F := F)) 𝒱₀ (V d (cV L) (jV L)) none) Set.univ (k ⟨⟩) Q)
        -∗ wp frame (wpE (defs₀ (F := F)) 𝒱₀ (V d (cV L) (jV L)) none) Set.univ
          (.op (.enqueueDma
              (((Memref.whole main_arg4_scv : Memref sig .scVector .hbm S1000000x64 .f32).slice (Rect.unit (s := S1000000x64) soff S1x64.size sinb) (fun _ => rfl)).squeeze S64 squeezes_S1x64_S64)
              (.here (((Memref.whole cc0_scratch2 : Memref sig .scVector .vmem S64x64 .f32).slice (Rect.unit (s := S64x64) off S1x64.size inb) (fun _ => rfl)).squeeze S64 squeezes_S1x64_S64))
              (.dma cc0_scratch5.sem) hs hd hty) k) Q) := by
  subst hoff hsoff ht'
  have hu1 : uIdx t = t / 6 := by unfold uIdx; omega
  have hu2 : uIdx (t + 1) = t / 6 + 1 := by unfold uIdx; omega
  have hn2 : nIdx (t + 1) = nIdx t := by unfold nIdx; omega
  have hsr : srcRow xs ns c t = xrow xs c (t / 6) := by unfold srcRow; rw [if_pos h6]
  show _ ⊢ iprop(_ -∗ wp frame _ Set.univ
    (.op (.enqueueDmaAs (tRow (xrow xs c (t / 6))) (.here (uRow ⟨t / 6, uDiv_lt ht⟩)) .same (.dma cc0_scratch5.sem) hs hd hty) k) Q)
  unfold issueSt
  rw [hu1, hu2, hn2]
  iintro ⟨HB, HU, HN, HE, HR⟩ Hk
  -- the destination row off the rows in hand
  ihave HU' := (pointsTo_split_subset (uRowSet_sub ⟨t / 6, uDiv_lt ht⟩)).1 $$ HU
  icases HU' with ⟨HUrow, HUrest⟩
  -- the t-th half of the share, and of it the source row
  ihave HE' := (pointsTo_share (PosShare.mem_left_op_right (Transfers.shareDrop (qw L) t))).1 $$ HE
  icases HE' with ⟨HEleft, HEtok⟩
  ihave HT' := (pointsTo_split_subset (Finset.subset_univ (tRowSet (xrow xs c (t / 6))))).1 $$ HEtok
  icases HT' with ⟨HTrow, HTrest⟩
  iapply (Transfers.wp_dmaBatch (countersEmb (U := UU)) 𝒱₀ (V d (cV L) (jV L)) none (none : HIx 2) NR
      (src := tRow (xrow xs c (t / 6))) (dst := uRow ⟨t / 6, uDiv_lt ht⟩) (q := Transfers.shareTokN (qw L) t) (fs := m (euLoc d))
      (Sd := (uRow ⟨t / 6, uDiv_lt ht⟩).view.set) (fd := fu) (D := DU m d L xs ns c fu fn) (j := t) (u := 0)
      rfl (Finset.Subset.refl _) ht (Nat.zero_le _) ?hD) $$ [HTrow HUrow HB]
  case hD =>
    unfold DU; rw [if_pos h6]; unfold landU; rw [← set_uRow, ← set_tRow]; exact .rfl
  · rw [set_tRow, set_uRow]
    isplitl [HTrow]; · iexact HTrow
    isplitl [HUrow]; · iexact HUrow
    iexact HB
  iintro HB
  iapply Hk
  isplitl [HB]; · iexact HB
  isplitl [HUrest]; · rw [uFrom_sdiff ⟨t / 6, uDiv_lt ht⟩]; iexact HUrest
  isplitl [HN]; · iexact HN
  isplitl [HEleft]; · iexact HEleft
  rw [Ring.bigSep_range_succ]
  isplitl [HTrest]
  · unfold restTok; rw [hsr]; iexact HTrest
  · iexact HR

/-- A negative's row copy (transfer t, t mod 6 ≠ 0). -/
theorem issue_n {α : Type} (t t' : ℕ) (ht' : t' = t + 1) (ht : t < 384) (h6 : t % 6 ≠ 0)
    (off : Fin 2 → ℕ) (inb : ∀ a, off a + S1x64.size a ≤ S320x64.size a) (hoff : off = ![nIdx t, 0])
    (soff : Fin 2 → ℕ) (sinb : ∀ a, soff a + S1x64.size a ≤ S1000000x64.size a) (hsoff : soff = ![(nrow ns c (nIdx t)).val, 0])
    (hs : _) (hd : _) (hty : _)
    (k : PUnit → Prog (TpuEff nD τ sig (Elt F) Λ₀ (.scVector (cV L) (jV L))) α) (Q : α → sProp 𝕄) :
    issueSt m d L xs ns c fu fn t
      ⊢ iprop((issueSt m d L xs ns c fu fn t' -∗ wp frame (wpE (defs₀ (F := F)) 𝒱₀ (V d (cV L) (jV L)) none) Set.univ (k ⟨⟩) Q)
        -∗ wp frame (wpE (defs₀ (F := F)) 𝒱₀ (V d (cV L) (jV L)) none) Set.univ
          (.op (.enqueueDma
              (((Memref.whole main_arg4_scv : Memref sig .scVector .hbm S1000000x64 .f32).slice (Rect.unit (s := S1000000x64) soff S1x64.size sinb) (fun _ => rfl)).squeeze S64 squeezes_S1x64_S64)
              (.here (((Memref.whole cc0_scratch3 : Memref sig .scVector .vmem S320x64 .f32).slice (Rect.unit (s := S320x64) off S1x64.size inb) (fun _ => rfl)).squeeze S64 squeezes_S1x64_S64))
              (.dma cc0_scratch5.sem) hs hd hty) k) Q) := by
  subst hoff hsoff ht'
  have hu2 : uIdx (t + 1) = uIdx t := by unfold uIdx; omega
  have hn2 : nIdx (t + 1) = nIdx t + 1 := by unfold nIdx; omega
  have hsr : srcRow xs ns c t = nrow ns c (nIdx t) := by unfold srcRow; rw [if_neg h6]
  show _ ⊢ iprop(_ -∗ wp frame _ Set.univ
    (.op (.enqueueDmaAs (tRow (nrow ns c (nIdx t))) (.here (nRow ⟨nIdx t, nIdx_lt ht⟩)) .same (.dma cc0_scratch5.sem) hs hd hty) k) Q)
  unfold issueSt
  rw [hu2, hn2]
  iintro ⟨HB, HU, HN, HE, HR⟩ Hk
  ihave HN' := (pointsTo_split_subset (nRowSet_sub ⟨nIdx t, nIdx_lt ht⟩)).1 $$ HN
  icases HN' with ⟨HNrow, HNrest⟩
  ihave HE' := (pointsTo_share (PosShare.mem_left_op_right (Transfers.shareDrop (qw L) t))).1 $$ HE
  icases HE' with ⟨HEleft, HEtok⟩
  ihave HT' := (pointsTo_split_subset (Finset.subset_univ (tRowSet (nrow ns c (nIdx t))))).1 $$ HEtok
  icases HT' with ⟨HTrow, HTrest⟩
  iapply (Transfers.wp_dmaBatch (countersEmb (U := UU)) 𝒱₀ (V d (cV L) (jV L)) none (none : HIx 2) NR
      (src := tRow (nrow ns c (nIdx t))) (dst := nRow ⟨nIdx t, nIdx_lt ht⟩) (q := Transfers.shareTokN (qw L) t) (fs := m (euLoc d))
      (Sd := (nRow ⟨nIdx t, nIdx_lt ht⟩).view.set) (fd := fn) (D := DU m d L xs ns c fu fn) (j := t) (u := 0)
      rfl (Finset.Subset.refl _) ht (Nat.zero_le _) ?hD) $$ [HTrow HNrow HB]
  case hD =>
    unfold DU; rw [if_neg h6]; unfold landN; rw [← set_nRow, ← set_tRow]; exact .rfl
  · rw [set_tRow, set_nRow]
    isplitl [HTrow]; · iexact HTrow
    isplitl [HNrow]; · iexact HNrow
    iexact HB
  iintro HB
  iapply Hk
  isplitl [HB]; · iexact HB
  isplitl [HU]; · iexact HU
  isplitl [HNrest]; · rw [nFrom_sdiff ⟨nIdx t, nIdx_lt ht⟩]; iexact HNrest
  isplitl [HEleft]; · iexact HEleft
  rw [Ring.bigSep_range_succ]
  isplitl [HTrest]
  · unfold restTok; rw [hsr]; iexact HTrest
  · iexact HR

end Chunk

end Cert.Proof.TileU

end
-- ==== Proof.TileUTripSteps.lean ====
/-
  The index words a trip of the issue loop loads, lane by lane, and one guarded row copy as a proof step.
-/
import proofs.«218857_g62938450756068_cont_9to1c4b_813_41_alg».proof.Proof.TileUIssue
import Idealize.ShloMosaic.Lib.Pipeline.Value

noncomputable section

namespace Cert.Proof.TileU

open Cert.KernelIdeal Cert.KernelIdeal.Gen Cert.Proof.KernelIdealBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

section Words

variable (xs : S512.Idx → BitVec 32) (ns : S2560.Idx → BitVec 32)

theorem vec2_eq (a b : ℕ) (h : a = b) : (![a, 0] : Fin 2 → ℕ) = ![b, 0] := by rw [h]

/-- A word picked out of a loaded vector of sixteen: lane l of it. -/
theorem word_eq (vec : IVec S16 32) (l : ℕ) (hl : l < 16) (h1 : S16.Slices ![l] S1) (h2 : ∀ a, (![0] : Fin 1 → ℕ) a < S1.size a) :
    extractAt ![0] (extractStridedSlice S1 ![l] vec h1) h2 = vec (ix1 ⟨l, hl⟩) := by
  unfold extractAt extractStridedSlice
  congr 1; funext a
  match a with
  | ⟨0, _⟩ => apply Fin.ext; simp

/-- Sixteen words loaded from offset o of a flat scratch buffer of index words: lane l is word o + l. -/
theorem load_x (off : Fin 1 → ℕ) (inb : ∀ a, off a + S16.size a ≤ S512.size a) (o : ℕ) (hoff : off = ![o]) (l : Fin 16) (ho : o + l.val < 512) :
    (Memref.whole cc0_scratch0 : Memref sig .scVector .vmem S512 .i32).view.readAt (Elt F) (Rect.unit (s := S512) off S16.size inb).toLoadRect xs (ix1 l)
      = xs (ix1 ⟨o + l.val, ho⟩) := by
  subst hoff
  rw [View.readAt_apply]
  simp only [Memref.view_whole, View.read_whole]
  congr 1; funext a
  match a with
  | ⟨0, _⟩ => apply Fin.ext; rw [LoadRect.idx_apply]; show o + 1 * l.val = o + l.val; omega
theorem load_n (off : Fin 1 → ℕ) (inb : ∀ a, off a + S16.size a ≤ S2560.size a) (o : ℕ) (hoff : off = ![o]) (l : Fin 16) (ho : o + l.val < 2560) :
    (Memref.whole cc0_scratch1 : Memref sig .scVector .vmem S2560 .i32).view.readAt (Elt F) (Rect.unit (s := S2560) off S16.size inb).toLoadRect ns (ix1 l)
      = ns (ix1 ⟨o + l.val, ho⟩) := by
  subst hoff
  rw [View.readAt_apply]
  simp only [Memref.view_whole, View.read_whole]
  congr 1; funext a
  match a with
  | ⟨0, _⟩ => apply Fin.ext; rw [LoadRect.idx_apply]; show o + 1 * l.val = o + l.val; omega

/-- Lane l of sixteen context words loaded at a closed-form offset o: word o + l. -/
theorem wordX (off : Fin 1 → ℕ) (inb : ∀ a, off a + S16.size a ≤ S512.size a) [hc : ClosedOff off] (o : ℕ) (ho : hc.form = ![o]) (hsc : _)
    (l : ℕ) (hl : l < 16) (h1 : _) (h2 : _) (hb : o + l < 512) :
    extractAt ![0] (extractStridedSlice S1 ![l] (shapeCast S16 ((Memref.whole cc0_scratch0 : Memref sig .scVector .vmem S512 .i32).view.readAt (Elt F) (Rect.unit (s := S512) off S16.size inb).toLoadRect xs) hsc) h1) h2
      = xs (ix1 ⟨o + l, hb⟩) := by
  refine (word_eq _ l hl h1 h2).trans ?_
  refine (congrFun (shapeCast_self (s := S16) _ _) _).trans ?_
  exact load_x (F := F) xs off inb o (hc.eq.trans ho) ⟨l, hl⟩ hb
theorem wordN (off : Fin 1 → ℕ) (inb : ∀ a, off a + S16.size a ≤ S2560.size a) [hc : ClosedOff off] (o : ℕ) (ho : hc.form = ![o]) (hsc : _)
    (l : ℕ) (hl : l < 16) (h1 : _) (h2 : _) (hb : o + l < 2560) :
    extractAt ![0] (extractStridedSlice S1 ![l] (shapeCast S16 ((Memref.whole cc0_scratch1 : Memref sig .scVector .vmem S2560 .i32).view.readAt (Elt F) (Rect.unit (s := S2560) off S16.size inb).toLoadRect ns) hsc) h1) h2
      = ns (ix1 ⟨o + l, hb⟩) := by
  refine (word_eq _ l hl h1 h2).trans ?_
  refine (congrFun (shapeCast_self (s := S16) _ _) _).trans ?_
  exact load_n (F := F) ns off inb o (hc.eq.trans ho) ⟨l, hl⟩ hb

end Words

/- One guarded row copy of trip g of chunk c: transfer 96 g + n of the chunk's batch. The context row of the trip's
   lane l (its word is lane l of the sixteen context words loaded from word 16 g + xb of the subcore's 512, xb = 64 c);
   the row of a negative word (a lane of the loaded vector of sixteen negative words that starts at word
   80 g + bv + cb of the subcore's 2560, cb = 320 c). -/
set_option hygiene false in
macro "issue_u_step" c:num xoff:ident xb:num n:num l:num : tactic => `(tactic| (
  iapply (wp_assume 𝒱₀ (V d (cV L) (jV L)) none Set.univ (chk_of_lt _ (lt_of_eq_of_lt (congrArg BitVec.toNat
    (wordX (F := F) xs ($xoff g) _ (16 * g.val + $xb) rfl _ $l (by omega) (by decide) (by decide) (by omega))) (hxs _))))
  iapply (issue_u m d L xs ns $c fu fn (96 * g.val + $n) (96 * g.val + ($n + 1)) (by omega) (by omega) (by omega) _ _ ?hoff _ _ ?hsoff _ _ _ _ _) $$ HS
  case hoff => exact ClosedOff.eq.trans (vec2_eq _ _ (by omega))
  case hsoff =>
    exact soff_u xs $c _ _ (by omega)
      ((wordX (F := F) xs ($xoff g) _ (16 * g.val + $xb) rfl _ $l (by omega) (by decide) (by decide) (by omega)).trans
        (congrArg xs (congrArg ix1 (Fin.ext (by show 16 * g.val + $xb + $l = 64 * (($c : Fin 8) : ℕ) + _; omega)))))
      (lt_of_eq_of_lt (congrArg BitVec.toNat (wordX (F := F) xs ($xoff g) _ (16 * g.val + $xb) rfl _ $l (by omega) (by decide) (by decide) (by omega))) (hxs _))
  iintro HS))
set_option hygiene false in
macro "issue_n_step" c:num noff:ident cb:num n:num bv:num lane:num : tactic => `(tactic| (
  iapply (wp_assume 𝒱₀ (V d (cV L) (jV L)) none Set.univ (chk_of_lt _ (lt_of_eq_of_lt (congrArg BitVec.toNat
    (wordN (F := F) ns ($noff g (BitVec.ofNat 32 $bv)) _ (80 * g.val + $bv + $cb) rfl _ $lane (by omega) (by decide) (by decide) (by omega))) (hns _))))
  iapply (issue_n m d L xs ns $c fu fn (96 * g.val + $n) (96 * g.val + ($n + 1)) (by omega) (by omega) (by omega) _ _ ?hoff _ _ ?hsoff _ _ _ _ _) $$ HS
  case hoff => exact ClosedOff.eq.trans (vec2_eq _ _ (by simp only [nIdx]; omega))
  case hsoff =>
    exact soff_n ns $c _ _ (by simp only [nIdx]; omega)
      ((wordN (F := F) ns ($noff g (BitVec.ofNat 32 $bv)) _ (80 * g.val + $bv + $cb) rfl _ $lane (by omega) (by decide) (by decide) (by omega)).trans
        (congrArg ns (congrArg ix1 (Fin.ext (by show 80 * g.val + $bv + $cb + $lane = 320 * (($c : Fin 8) : ℕ) + nIdx _; simp only [nIdx]; omega)))))
      (lt_of_eq_of_lt (congrArg BitVec.toNat (wordN (F := F) ns ($noff g (BitVec.ofNat 32 $bv)) _ (80 * g.val + $bv + $cb) rfl _ $lane (by omega) (by decide) (by decide) (by omega))) (hns _))
  iintro HS))

end Cert.Proof.TileU

end
-- ==== Proof.TileUTripTable.lean ====
import proofs.«218857_g62938450756068_cont_9to1c4b_813_41_alg».proof.Proof.TileUTripSteps

namespace Cert.Proof.TileU

/-- The ninety-six guarded row copies of one trip of chunk c's issue loop, in program order: per lane, the context
    row, then the five negatives' rows. Arguments: the chunk; the offset functions of the trip's loads of context and
    negative words with the chunk's first word (64 c, 320 c). -/
macro "issue_steps" c:num xoff:ident xb:num noff:ident cb:num : tactic => `(tactic| (
  issue_u_step $c $xoff $xb 0 0
  issue_n_step $c $noff $cb 1 0 0
  issue_n_step $c $noff $cb 2 0 1
  issue_n_step $c $noff $cb 3 0 2
  issue_n_step $c $noff $cb 4 0 3
  issue_n_step $c $noff $cb 5 0 4
  issue_u_step $c $xoff $xb 6 1
  issue_n_step $c $noff $cb 7 0 5
  issue_n_step $c $noff $cb 8 0 6
  issue_n_step $c $noff $cb 9 0 7
  issue_n_step $c $noff $cb 10 0 8
  issue_n_step $c $noff $cb 11 0 9
  issue_u_step $c $xoff $xb 12 2
  issue_n_step $c $noff $cb 13 0 10
  issue_n_step $c $noff $cb 14 0 11
  issue_n_step $c $noff $cb 15 0 12
  issue_n_step $c $noff $cb 16 0 13
  issue_n_step $c $noff $cb 17 0 14
  issue_u_step $c $xoff $xb 18 3
  issue_n_step $c $noff $cb 19 0 15
  issue_n_step $c $noff $cb 20 16 0
  issue_n_step $c $noff $cb 21 16 1
  issue_n_step $c $noff $cb 22 16 2
  issue_n_step $c $noff $cb 23 16 3
  issue_u_step $c $xoff $xb 24 4
  issue_n_step $c $noff $cb 25 16 4
  issue_n_step $c $noff $cb 26 16 5
  issue_n_step $c $noff $cb 27 16 6
  issue_n_step $c $noff $cb 28 16 7
  issue_n_step $c $noff $cb 29 16 8
  issue_u_step $c $xoff $xb 30 5
  issue_n_step $c $noff $cb 31 16 9
  issue_n_step $c $noff $cb 32 16 10
  issue_n_step $c $noff $cb 33 16 11
  issue_n_step $c $noff $cb 34 16 12
  issue_n_step $c $noff $cb 35 16 13
  issue_u_step $c $xoff $xb 36 6
  issue_n_step $c $noff $cb 37 16 14
  issue_n_step $c $noff $cb 38 16 15
  issue_n_step $c $noff $cb 39 32 0
  issue_n_step $c $noff $cb 40 32 1
  issue_n_step $c $noff $cb 41 32 2
  issue_u_step $c $xoff $xb 42 7
  issue_n_step $c $noff $cb 43 32 3
  issue_n_step $c $noff $cb 44 32 4
  issue_n_step $c $noff $cb 45 32 5
  issue_n_step $c $noff $cb 46 32 6
  issue_n_step $c $noff $cb 47 32 7
  issue_u_step $c $xoff $xb 48 8
  issue_n_step $c $noff $cb 49 32 8
  issue_n_step $c $noff $cb 50 32 9
  issue_n_step $c $noff $cb 51 32 10
  issue_n_step $c $noff $cb 52 32 11
  issue_n_step $c $noff $cb 53 32 12
  issue_u_step $c $xoff $xb 54 9
  issue_n_step $c $noff $cb 55 32 13
  issue_n_step $c $noff $cb 56 32 14
  issue_n_step $c $noff $cb 57 32 15
  issue_n_step $c $noff $cb 58 48 0
  issue_n_step $c $noff $cb 59 48 1
  issue_u_step $c $xoff $xb 60 10
  issue_n_step $c $noff $cb 61 48 2
  issue_n_step $c $noff $cb 62 48 3
  issue_n_step $c $noff $cb 63 48 4
  issue_n_step $c $noff $cb 64 48 5
  issue_n_step $c $noff $cb 65 48 6
  issue_u_step $c $xoff $xb 66 11
  issue_n_step $c $noff $cb 67 48 7
  issue_n_step $c $noff $cb 68 48 8
  issue_n_step $c $noff $cb 69 48 9
  issue_n_step $c $noff $cb 70 48 10
  issue_n_step $c $noff $cb 71 48 11
  issue_u_step $c $xoff $xb 72 12
  issue_n_step $c $noff $cb 73 48 12
  issue_n_step $c $noff $cb 74 48 13
  issue_n_step $c $noff $cb 75 48 14
  issue_n_step $c $noff $cb 76 48 15
  issue_n_step $c $noff $cb 77 64 0
  issue_u_step $c $xoff $xb 78 13
  issue_n_step $c $noff $cb 79 64 1
  issue_n_step $c $noff $cb 80 64 2
  issue_n_step $c $noff $cb 81 64 3
  issue_n_step $c $noff $cb 82 64 4
  issue_n_step $c $noff $cb 83 64 5
  issue_u_step $c $xoff $xb 84 14
  issue_n_step $c $noff $cb 85 64 6
  issue_n_step $c $noff $cb 86 64 7
  issue_n_step $c $noff $cb 87 64 8
  issue_n_step $c $noff $cb 88 64 9
  issue_n_step $c $noff $cb 89 64 10
  issue_u_step $c $xoff $xb 90 15
  issue_n_step $c $noff $cb 91 64 11
  issue_n_step $c $noff $cb 92 64 12
  issue_n_step $c $noff $cb 93 64 13
  issue_n_step $c $noff $cb 94 64 14
  issue_n_step $c $noff $cb 95 64 15
  ))

end Cert.Proof.TileU
-- ==== Proof.TileUTripProof.lean ====
/-
  One trip of a chunk's issue loop, the argument: six loads of sixteen index words each (the trip's sixteen context
  words and eighty negative words), then ninety-six row copies, element by element, the context row first and the five
  negatives' rows after it, each guarded by the check that its word names a table row.
-/
import proofs.«218857_g62938450756068_cont_9to1c4b_813_41_alg».proof.Proof.TileUTripTable

namespace Cert.Proof.TileU

open Idealize.ShloMosaic Idealize.SL Idealize.SL.BI Idealize.SL.ProofMode Idealize.SL.Sem
open scoped Idealize.SL.BI

/- The trip, once its text is laid out as a sequence of operations: the six loads, the ninety-six guarded copies, the
    return. In scope where it is called: the trip g with g.val < 4 (hg), the chunk's number as a natural (hc0), the
    bounds on the index words (hxs, hns). -/
set_option hygiene false in
macro "trip_proof" c:num xoff:ident xb:num noff:ident cb:num : tactic => `(tactic| (
  iintro ⟨HS, HX, HN⟩
  iapply (wp_load 𝒱₀ (V d (cV L) (jV L)) none Set.univ (m := (Memref.whole cc0_scratch0 : Memref sig .scVector .vmem S512 .i32)) (S := Finset.univ) (Finset.subset_univ _)) $$ HX; iintro HX
  iapply (wp_load 𝒱₀ (V d (cV L) (jV L)) none Set.univ (m := (Memref.whole cc0_scratch1 : Memref sig .scVector .vmem S2560 .i32)) (S := Finset.univ) (Finset.subset_univ _)) $$ HN; iintro HN
  iapply (wp_load 𝒱₀ (V d (cV L) (jV L)) none Set.univ (m := (Memref.whole cc0_scratch1 : Memref sig .scVector .vmem S2560 .i32)) (S := Finset.univ) (Finset.subset_univ _)) $$ HN; iintro HN
  iapply (wp_load 𝒱₀ (V d (cV L) (jV L)) none Set.univ (m := (Memref.whole cc0_scratch1 : Memref sig .scVector .vmem S2560 .i32)) (S := Finset.univ) (Finset.subset_univ _)) $$ HN; iintro HN
  iapply (wp_load 𝒱₀ (V d (cV L) (jV L)) none Set.univ (m := (Memref.whole cc0_scratch1 : Memref sig .scVector .vmem S2560 .i32)) (S := Finset.univ) (Finset.subset_univ _)) $$ HN; iintro HN
  iapply (wp_load 𝒱₀ (V d (cV L) (jV L)) none Set.univ (m := (Memref.whole cc0_scratch1 : Memref sig .scVector .vmem S2560 .i32)) (S := Finset.univ) (Finset.subset_univ _)) $$ HN; iintro HN
  issue_steps $c $xoff $xb $noff $cb
  rw [wp_ret]; imodintro
  rw [show 96 * (g.val + 1) = 96 * g.val + (95 + 1) by omega]
  isplitl [HS]; · iexact HS
  isplitl [HX] <;> iassumption))

end Cert.Proof.TileU
-- ==== Proof.TileUTripC0.lean ====
import proofs.«218857_g62938450756068_cont_9to1c4b_813_41_alg».proof.Proof.TileUTripProof

noncomputable section

namespace Cert.Proof.TileU

open Cert.KernelIdeal Cert.KernelIdeal.Gen Cert.Proof.KernelIdealBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))

set_option maxHeartbeats 8000000 in
set_option maxRecDepth 65536 in
/-- Trip g of chunk 0's issue loop: transfers 96 g … 96 g + 95 of the chunk's batch. -/
theorem trip0 (hxs : ∀ j, (xs j).toNat < 1000000) (hns : ∀ j, (ns j).toNat < 1000000) (v2 : BitVec 32) (g : Fin k0_t1_loop.trips) (acc : Unit) :
    iprop(issueSt m d L xs ns 0 fu fn (96 * g.val) ∗ ((V d (cV L) (jV L)).loc cc0_scratch0 ↦{fullShare} xs) ∗ ((V d (cV L) (jV L)).loc cc0_scratch1 ↦{fullShare} ns))
      ⊢ wp frame (wpE (defs₀ (F := F)) 𝒱₀ (V d (cV L) (jV L)) none) Set.univ
          (k0_t1_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 g acc)
          (fun _ => iprop(issueSt m d L xs ns 0 fu fn (96 * (g.val + 1)) ∗ ((V d (cV L) (jV L)).loc cc0_scratch0 ↦{fullShare} xs) ∗ ((V d (cV L) (jV L)).loc cc0_scratch1 ↦{fullShare} ns))) := by
  have hg : g.val < 4 := lt_of_lt_of_le g.isLt k0_t1_abs.2.1
  have hc0 : ((0 : Fin 8) : ℕ) = 0 := rfl
  unfold k0_t1_body
  simp only [k0_part33_eq_skeleton]; unfold k0_part33_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel
  simp only [Prog.lift, Prog.bind_op, Prog.bind_ret, Prog.pure_eq_ret]
  trip_proof 0 k0_off3 0 k0_off4 0

end Cert.Proof.TileU

end
-- ==== Proof.TileUTripC1.lean ====
import proofs.«218857_g62938450756068_cont_9to1c4b_813_41_alg».proof.Proof.TileUTripProof

noncomputable section

namespace Cert.Proof.TileU

open Cert.KernelIdeal Cert.KernelIdeal.Gen Cert.Proof.KernelIdealBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))

set_option maxHeartbeats 8000000 in
set_option maxRecDepth 65536 in
/-- Trip g of chunk 1's issue loop: transfers 96 g … 96 g + 95 of the chunk's batch. -/
theorem trip1 (hxs : ∀ j, (xs j).toNat < 1000000) (hns : ∀ j, (ns j).toNat < 1000000) (v2 : BitVec 32) (g : Fin k0_t4_loop.trips) (acc : Unit) :
    iprop(issueSt m d L xs ns 1 fu fn (96 * g.val) ∗ ((V d (cV L) (jV L)).loc cc0_scratch0 ↦{fullShare} xs) ∗ ((V d (cV L) (jV L)).loc cc0_scratch1 ↦{fullShare} ns))
      ⊢ wp frame (wpE (defs₀ (F := F)) 𝒱₀ (V d (cV L) (jV L)) none) Set.univ
          (k0_t4_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 g acc)
          (fun _ => iprop(issueSt m d L xs ns 1 fu fn (96 * (g.val + 1)) ∗ ((V d (cV L) (jV L)).loc cc0_scratch0 ↦{fullShare} xs) ∗ ((V d (cV L) (jV L)).loc cc0_scratch1 ↦{fullShare} ns))) := by
  have hg : g.val < 4 := lt_of_lt_of_le g.isLt k0_t4_abs.2.1
  have hc0 : ((1 : Fin 8) : ℕ) = 1 := rfl
  unfold k0_t4_body
  simp only [k0_part70_eq_skeleton]; unfold k0_part70_skel
  simp only [k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton]
  unfold k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel k0_part61_skel k0_part62_skel k0_part63_skel k0_part64_skel k0_part65_skel k0_part66_skel k0_part67_skel k0_part68_skel k0_part69_skel
  simp only [Prog.lift, Prog.bind_op, Prog.bind_ret, Prog.pure_eq_ret]
  trip_proof 1 k0_off239 64 k0_off240 320

end Cert.Proof.TileU

end
-- ==== Proof.TileUTripC2.lean ====
import proofs.«218857_g62938450756068_cont_9to1c4b_813_41_alg».proof.Proof.TileUTripProof

noncomputable section

namespace Cert.Proof.TileU

open Cert.KernelIdeal Cert.KernelIdeal.Gen Cert.Proof.KernelIdealBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))

set_option maxHeartbeats 8000000 in
set_option maxRecDepth 65536 in
/-- Trip g of chunk 2's issue loop: transfers 96 g … 96 g + 95 of the chunk's batch. -/
theorem trip2 (hxs : ∀ j, (xs j).toNat < 1000000) (hns : ∀ j, (ns j).toNat < 1000000) (v2 : BitVec 32) (g : Fin k0_t7_loop.trips) (acc : Unit) :
    iprop(issueSt m d L xs ns 2 fu fn (96 * g.val) ∗ ((V d (cV L) (jV L)).loc cc0_scratch0 ↦{fullShare} xs) ∗ ((V d (cV L) (jV L)).loc cc0_scratch1 ↦{fullShare} ns))
      ⊢ wp frame (wpE (defs₀ (F := F)) 𝒱₀ (V d (cV L) (jV L)) none) Set.univ
          (k0_t7_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 g acc)
          (fun _ => iprop(issueSt m d L xs ns 2 fu fn (96 * (g.val + 1)) ∗ ((V d (cV L) (jV L)).loc cc0_scratch0 ↦{fullShare} xs) ∗ ((V d (cV L) (jV L)).loc cc0_scratch1 ↦{fullShare} ns))) := by
  have hg : g.val < 4 := lt_of_lt_of_le g.isLt k0_t7_abs.2.1
  have hc0 : ((2 : Fin 8) : ℕ) = 2 := rfl
  unfold k0_t7_body
  simp only [k0_part107_eq_skeleton]; unfold k0_part107_skel
  simp only [k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton]
  unfold k0_part75_skel k0_part76_skel k0_part77_skel k0_part78_skel k0_part79_skel k0_part80_skel k0_part81_skel k0_part82_skel k0_part83_skel k0_part84_skel k0_part85_skel k0_part86_skel k0_part87_skel k0_part88_skel k0_part89_skel k0_part90_skel k0_part91_skel k0_part92_skel k0_part93_skel k0_part94_skel k0_part95_skel k0_part96_skel k0_part97_skel k0_part98_skel k0_part99_skel k0_part100_skel k0_part101_skel k0_part102_skel k0_part103_skel k0_part104_skel k0_part105_skel k0_part106_skel
  simp only [Prog.lift, Prog.bind_op, Prog.bind_ret, Prog.pure_eq_ret]
  trip_proof 2 k0_off474 128 k0_off475 640

end Cert.Proof.TileU

end
-- ==== Proof.TileUTripC3.lean ====
import proofs.«218857_g62938450756068_cont_9to1c4b_813_41_alg».proof.Proof.TileUTripProof

noncomputable section

namespace Cert.Proof.TileU

open Cert.KernelIdeal Cert.KernelIdeal.Gen Cert.Proof.KernelIdealBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))

set_option maxHeartbeats 8000000 in
set_option maxRecDepth 65536 in
/-- Trip g of chunk 3's issue loop: transfers 96 g … 96 g + 95 of the chunk's batch. -/
theorem trip3 (hxs : ∀ j, (xs j).toNat < 1000000) (hns : ∀ j, (ns j).toNat < 1000000) (v2 : BitVec 32) (g : Fin k0_t10_loop.trips) (acc : Unit) :
    iprop(issueSt m d L xs ns 3 fu fn (96 * g.val) ∗ ((V d (cV L) (jV L)).loc cc0_scratch0 ↦{fullShare} xs) ∗ ((V d (cV L) (jV L)).loc cc0_scratch1 ↦{fullShare} ns))
      ⊢ wp frame (wpE (defs₀ (F := F)) 𝒱₀ (V d (cV L) (jV L)) none) Set.univ
          (k0_t10_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 g acc)
          (fun _ => iprop(issueSt m d L xs ns 3 fu fn (96 * (g.val + 1)) ∗ ((V d (cV L) (jV L)).loc cc0_scratch0 ↦{fullShare} xs) ∗ ((V d (cV L) (jV L)).loc cc0_scratch1 ↦{fullShare} ns))) := by
  have hg : g.val < 4 := lt_of_lt_of_le g.isLt k0_t10_abs.2.1
  have hc0 : ((3 : Fin 8) : ℕ) = 3 := rfl
  unfold k0_t10_body
  simp only [k0_part144_eq_skeleton]; unfold k0_part144_skel
  simp only [k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton]
  unfold k0_part112_skel k0_part113_skel k0_part114_skel k0_part115_skel k0_part116_skel k0_part117_skel k0_part118_skel k0_part119_skel k0_part120_skel k0_part121_skel k0_part122_skel k0_part123_skel k0_part124_skel k0_part125_skel k0_part126_skel k0_part127_skel k0_part128_skel k0_part129_skel k0_part130_skel k0_part131_skel k0_part132_skel k0_part133_skel k0_part134_skel k0_part135_skel k0_part136_skel k0_part137_skel k0_part138_skel k0_part139_skel k0_part140_skel k0_part141_skel k0_part142_skel k0_part143_skel
  simp only [Prog.lift, Prog.bind_op, Prog.bind_ret, Prog.pure_eq_ret]
  trip_proof 3 k0_off709 192 k0_off710 960

end Cert.Proof.TileU

end
-- ==== Proof.TileUTripC4.lean ====
import proofs.«218857_g62938450756068_cont_9to1c4b_813_41_alg».proof.Proof.TileUTripProof

noncomputable section

namespace Cert.Proof.TileU

open Cert.KernelIdeal Cert.KernelIdeal.Gen Cert.Proof.KernelIdealBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))

set_option maxHeartbeats 8000000 in
set_option maxRecDepth 65536 in
/-- Trip g of chunk 4's issue loop: transfers 96 g … 96 g + 95 of the chunk's batch. -/
theorem trip4 (hxs : ∀ j, (xs j).toNat < 1000000) (hns : ∀ j, (ns j).toNat < 1000000) (v2 : BitVec 32) (g : Fin k0_t13_loop.trips) (acc : Unit) :
    iprop(issueSt m d L xs ns 4 fu fn (96 * g.val) ∗ ((V d (cV L) (jV L)).loc cc0_scratch0 ↦{fullShare} xs) ∗ ((V d (cV L) (jV L)).loc cc0_scratch1 ↦{fullShare} ns))
      ⊢ wp frame (wpE (defs₀ (F := F)) 𝒱₀ (V d (cV L) (jV L)) none) Set.univ
          (k0_t13_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 g acc)
          (fun _ => iprop(issueSt m d L xs ns 4 fu fn (96 * (g.val + 1)) ∗ ((V d (cV L) (jV L)).loc cc0_scratch0 ↦{fullShare} xs) ∗ ((V d (cV L) (jV L)).loc cc0_scratch1 ↦{fullShare} ns))) := by
  have hg : g.val < 4 := lt_of_lt_of_le g.isLt k0_t13_abs.2.1
  have hc0 : ((4 : Fin 8) : ℕ) = 4 := rfl
  unfold k0_t13_body
  simp only [k0_part181_eq_skeleton]; unfold k0_part181_skel
  simp only [k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton]
  unfold k0_part149_skel k0_part150_skel k0_part151_skel k0_part152_skel k0_part153_skel k0_part154_skel k0_part155_skel k0_part156_skel k0_part157_skel k0_part158_skel k0_part159_skel k0_part160_skel k0_part161_skel k0_part162_skel k0_part163_skel k0_part164_skel k0_part165_skel k0_part166_skel k0_part167_skel k0_part168_skel k0_part169_skel k0_part170_skel k0_part171_skel k0_part172_skel k0_part173_skel k0_part174_skel k0_part175_skel k0_part176_skel k0_part177_skel k0_part178_skel k0_part179_skel k0_part180_skel
  simp only [Prog.lift, Prog.bind_op, Prog.bind_ret, Prog.pure_eq_ret]
  trip_proof 4 k0_off944 256 k0_off945 1280

end Cert.Proof.TileU

end
-- ==== Proof.TileUTripC5.lean ====
import proofs.«218857_g62938450756068_cont_9to1c4b_813_41_alg».proof.Proof.TileUTripProof

noncomputable section

namespace Cert.Proof.TileU

open Cert.KernelIdeal Cert.KernelIdeal.Gen Cert.Proof.KernelIdealBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))

set_option maxHeartbeats 8000000 in
set_option maxRecDepth 65536 in
/-- Trip g of chunk 5's issue loop: transfers 96 g … 96 g + 95 of the chunk's batch. -/
theorem trip5 (hxs : ∀ j, (xs j).toNat < 1000000) (hns : ∀ j, (ns j).toNat < 1000000) (v2 : BitVec 32) (g : Fin k0_t16_loop.trips) (acc : Unit) :
    iprop(issueSt m d L xs ns 5 fu fn (96 * g.val) ∗ ((V d (cV L) (jV L)).loc cc0_scratch0 ↦{fullShare} xs) ∗ ((V d (cV L) (jV L)).loc cc0_scratch1 ↦{fullShare} ns))
      ⊢ wp frame (wpE (defs₀ (F := F)) 𝒱₀ (V d (cV L) (jV L)) none) Set.univ
          (k0_t16_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 g acc)
          (fun _ => iprop(issueSt m d L xs ns 5 fu fn (96 * (g.val + 1)) ∗ ((V d (cV L) (jV L)).loc cc0_scratch0 ↦{fullShare} xs) ∗ ((V d (cV L) (jV L)).loc cc0_scratch1 ↦{fullShare} ns))) := by
  have hg : g.val < 4 := lt_of_lt_of_le g.isLt k0_t16_abs.2.1
  have hc0 : ((5 : Fin 8) : ℕ) = 5 := rfl
  unfold k0_t16_body
  simp only [k0_part218_eq_skeleton]; unfold k0_part218_skel
  simp only [k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton]
  unfold k0_part186_skel k0_part187_skel k0_part188_skel k0_part189_skel k0_part190_skel k0_part191_skel k0_part192_skel k0_part193_skel k0_part194_skel k0_part195_skel k0_part196_skel k0_part197_skel k0_part198_skel k0_part199_skel k0_part200_skel k0_part201_skel k0_part202_skel k0_part203_skel k0_part204_skel k0_part205_skel k0_part206_skel k0_part207_skel k0_part208_skel k0_part209_skel k0_part210_skel k0_part211_skel k0_part212_skel k0_part213_skel k0_part214_skel k0_part215_skel k0_part216_skel k0_part217_skel
  simp only [Prog.lift, Prog.bind_op, Prog.bind_ret, Prog.pure_eq_ret]
  trip_proof 5 k0_off1179 320 k0_off1180 1600

end Cert.Proof.TileU

end
-- ==== Proof.TileUTripC6.lean ====
import proofs.«218857_g62938450756068_cont_9to1c4b_813_41_alg».proof.Proof.TileUTripProof

noncomputable section

namespace Cert.Proof.TileU

open Cert.KernelIdeal Cert.KernelIdeal.Gen Cert.Proof.KernelIdealBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))

set_option maxHeartbeats 8000000 in
set_option maxRecDepth 65536 in
/-- Trip g of chunk 6's issue loop: transfers 96 g … 96 g + 95 of the chunk's batch. -/
theorem trip6 (hxs : ∀ j, (xs j).toNat < 1000000) (hns : ∀ j, (ns j).toNat < 1000000) (v2 : BitVec 32) (g : Fin k0_t19_loop.trips) (acc : Unit) :
    iprop(issueSt m d L xs ns 6 fu fn (96 * g.val) ∗ ((V d (cV L) (jV L)).loc cc0_scratch0 ↦{fullShare} xs) ∗ ((V d (cV L) (jV L)).loc cc0_scratch1 ↦{fullShare} ns))
      ⊢ wp frame (wpE (defs₀ (F := F)) 𝒱₀ (V d (cV L) (jV L)) none) Set.univ
          (k0_t19_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 g acc)
          (fun _ => iprop(issueSt m d L xs ns 6 fu fn (96 * (g.val + 1)) ∗ ((V d (cV L) (jV L)).loc cc0_scratch0 ↦{fullShare} xs) ∗ ((V d (cV L) (jV L)).loc cc0_scratch1 ↦{fullShare} ns))) := by
  have hg : g.val < 4 := lt_of_lt_of_le g.isLt k0_t19_abs.2.1
  have hc0 : ((6 : Fin 8) : ℕ) = 6 := rfl
  unfold k0_t19_body
  simp only [k0_part255_eq_skeleton]; unfold k0_part255_skel
  simp only [k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton]
  unfold k0_part223_skel k0_part224_skel k0_part225_skel k0_part226_skel k0_part227_skel k0_part228_skel k0_part229_skel k0_part230_skel k0_part231_skel k0_part232_skel k0_part233_skel k0_part234_skel k0_part235_skel k0_part236_skel k0_part237_skel k0_part238_skel k0_part239_skel k0_part240_skel k0_part241_skel k0_part242_skel k0_part243_skel k0_part244_skel k0_part245_skel k0_part246_skel k0_part247_skel k0_part248_skel k0_part249_skel k0_part250_skel k0_part251_skel k0_part252_skel k0_part253_skel k0_part254_skel
  simp only [Prog.lift, Prog.bind_op, Prog.bind_ret, Prog.pure_eq_ret]
  trip_proof 6 k0_off1414 384 k0_off1415 1920

end Cert.Proof.TileU

end
-- ==== Proof.TileUTripC7.lean ====
import proofs.«218857_g62938450756068_cont_9to1c4b_813_41_alg».proof.Proof.TileUTripProof

noncomputable section

namespace Cert.Proof.TileU

open Cert.KernelIdeal Cert.KernelIdeal.Gen Cert.Proof.KernelIdealBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))

set_option maxHeartbeats 8000000 in
set_option maxRecDepth 65536 in
/-- Trip g of chunk 7's issue loop: transfers 96 g … 96 g + 95 of the chunk's batch. -/
theorem trip7 (hxs : ∀ j, (xs j).toNat < 1000000) (hns : ∀ j, (ns j).toNat < 1000000) (v2 : BitVec 32) (g : Fin k0_t22_loop.trips) (acc : Unit) :
    iprop(issueSt m d L xs ns 7 fu fn (96 * g.val) ∗ ((V d (cV L) (jV L)).loc cc0_scratch0 ↦{fullShare} xs) ∗ ((V d (cV L) (jV L)).loc cc0_scratch1 ↦{fullShare} ns))
      ⊢ wp frame (wpE (defs₀ (F := F)) 𝒱₀ (V d (cV L) (jV L)) none) Set.univ
          (k0_t22_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 g acc)
          (fun _ => iprop(issueSt m d L xs ns 7 fu fn (96 * (g.val + 1)) ∗ ((V d (cV L) (jV L)).loc cc0_scratch0 ↦{fullShare} xs) ∗ ((V d (cV L) (jV L)).loc cc0_scratch1 ↦{fullShare} ns))) := by
  have hg : g.val < 4 := lt_of_lt_of_le g.isLt k0_t22_abs.2.1
  have hc0 : ((7 : Fin 8) : ℕ) = 7 := rfl
  unfold k0_t22_body
  simp only [k0_part292_eq_skeleton]; unfold k0_part292_skel
  simp only [k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton]
  unfold k0_part260_skel k0_part261_skel k0_part262_skel k0_part263_skel k0_part264_skel k0_part265_skel k0_part266_skel k0_part267_skel k0_part268_skel k0_part269_skel k0_part270_skel k0_part271_skel k0_part272_skel k0_part273_skel k0_part274_skel k0_part275_skel k0_part276_skel k0_part277_skel k0_part278_skel k0_part279_skel k0_part280_skel k0_part281_skel k0_part282_skel k0_part283_skel k0_part284_skel k0_part285_skel k0_part286_skel k0_part287_skel k0_part288_skel k0_part289_skel k0_part290_skel k0_part291_skel
  simp only [Prog.lift, Prog.bind_op, Prog.bind_ret, Prog.pure_eq_ret]
  trip_proof 7 k0_off1649 448 k0_off1650 2240

end Cert.Proof.TileU

end
-- ==== Proof.TileUDrain.lean ====
/-
  The waits that drain a chunk's batch: each takes one row's credit off the semaphore; none but the last tells the
  subcore anything, the last hands back every delivery and the semaphore at zero.
-/
import proofs.«218857_g62938450756068_cont_9to1c4b_813_41_alg».proof.Proof.TileUBatch

noncomputable section

namespace Cert.Proof.TileU

open Cert.KernelIdeal Cert.KernelIdeal.Gen Cert.Proof.KernelIdealBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

section Chunk

variable (m : (ℓ : Loc nD τ sig) → Buf (Elt F) ℓ) (d : Dev nD) (L : grid0.Coords)
variable (xs : S512.Idx → BitVec 32) (ns : S2560.Idx → BitVec 32) (c : Fin 8)
variable (fu : Buf (Elt F) ((V d (cV L) (jV L)).loc cc0_scratch2)) (fn : Buf (Elt F) ((V d (cV L) (jV L)).loc cc0_scratch3))
variable (O : CellTallies nD τ sig (HIx 2)) (W : Waits sig (HIx 2))

/-- What the subcore owes, with the waits recorded so far (all at no index beyond those it started with). -/
def owesSt : sProp 𝕄 := iprop(∃ W', ⌜∀ p ∈ W', p ∈ W ∨ p.2 = none⌝ ∗ owes (V d (cV L) (jV L)) O W')

theorem NR_pos : 0 < NR := View.amount_pos _ _ (show 0 < S64.numel by decide)

/-- A wait that is not the batch's last. -/
theorem wait_skip {α : Type} (hO : ∀ g, O g none = 0) (u : ℕ) (hu : u + NR < NR * 384)
    {sp' : Space} {s' : Shape} {e' : EltTy} (srcw : Memref sig .scVector sp' s' e') (dstw : Memref sig .scVector .vmem S64 .f32)
    (hcred : dstw.view.dmaCredit = NR) (hs : _) (hd : _)
    (k : PUnit → Prog (TpuEff nD τ sig (Elt F) Λ₀ (.scVector (cV L) (jV L))) α) (Q : α → sProp 𝕄) :
    iprop(□ levAts (K (F := F)).L (K (F := F)).lev ∗ batchU m d L xs ns c fu fn 384 u ∗ owesSt d L O W)
      ⊢ iprop((iprop(batchU m d L xs ns c fu fn 384 (u + NR) ∗ owesSt d L O W) -∗ wp frame (wpE (defs₀ (F := F)) 𝒱₀ (V d (cV L) (jV L)) none) Set.univ (k ⟨⟩) Q)
          -∗ wp frame (wpE (defs₀ (F := F)) 𝒱₀ (V d (cV L) (jV L)) none) Set.univ (.op (.waitDma2 cc0_scratch5.sem srcw dstw hs hd) k) Q) := by
  unfold owesSt
  iintro ⟨#Hlv, HB, %W', %hW', HO⟩ Hk
  iapply (Transfers.wp_waitBatchO (countersEmb (U := UU)) 𝒱₀ (V d (cV L) (jV L)) none (none : HIx 2) hcred hu (O := O) (W := W')) $$ [HB HO]
  · isplitl [HB]; · iexact HB
    isplitl [HO]; · iexact HO
    iapply ((K (F := F)).mayWait_none (SemLoc.dma cc0_scratch5.sem) hO); iexact Hlv
  iintro ⟨HB, HO⟩
  iapply Hk
  isplitl [HB]; · iexact HB
  iexists (insert (SemLoc.dma cc0_scratch5.sem, (none : HIx 2)) W'); isplitr
  · ipureintro; intro p hp
    rcases Finset.mem_insert.mp hp with rfl | hp
    · exact .inr rfl
    · exact hW' p hp
  · iexact HO

/-- The batch's last wait: every delivery, and the semaphore at zero. -/
theorem wait_last {α : Type} (hO : ∀ g, O g none = 0) (u : ℕ) (hu : u + NR = NR * 384)
    {sp' : Space} {s' : Shape} {e' : EltTy} (srcw : Memref sig .scVector sp' s' e') (dstw : Memref sig .scVector .vmem S64 .f32)
    (hcred : dstw.view.dmaCredit = NR) (hs : _) (hd : _)
    (k : PUnit → Prog (TpuEff nD τ sig (Elt F) Λ₀ (.scVector (cV L) (jV L))) α) (Q : α → sProp 𝕄) :
    iprop(□ levAts (K (F := F)).L (K (F := F)).lev ∗ batchU m d L xs ns c fu fn 384 u ∗ owesSt d L O W)
      ⊢ iprop((iprop(bigSep Finset.univ (DU m d L xs ns c fu fn) ∗ semVal ((V d (cV L) (jV L), SemLoc.dma cc0_scratch5.sem) : GSem nD τ sig) 0 ∗ owesSt d L O W)
            -∗ wp frame (wpE (defs₀ (F := F)) 𝒱₀ (V d (cV L) (jV L)) none) Set.univ (k ⟨⟩) Q)
          -∗ wp frame (wpE (defs₀ (F := F)) 𝒱₀ (V d (cV L) (jV L)) none) Set.univ (.op (.waitDma2 cc0_scratch5.sem srcw dstw hs hd) k) Q) := by
  unfold owesSt
  iintro ⟨#Hlv, HB, %W', %hW', HO⟩ Hk
  iapply (Transfers.wp_waitBatchLastO (countersEmb (U := UU)) 𝒱₀ (V d (cV L) (jV L)) none (none : HIx 2) hcred NR_pos hu (O := O) (W := W')) $$ [HB HO]
  · isplitl [HB]; · iexact HB
    isplitl [HO]; · iexact HO
    iapply ((K (F := F)).mayWait_none (SemLoc.dma cc0_scratch5.sem) hO); iexact Hlv
  iintro ⟨HD, Hsem, HO⟩
  iapply Hk
  isplitl [HD]; · iexact HD
  isplitl [Hsem]; · iexact Hsem
  iexists (insert (SemLoc.dma cc0_scratch5.sem, (none : HIx 2)) W'); isplitr
  · ipureintro; intro p hp
    rcases Finset.mem_insert.mp hp with rfl | hp
    · exact .inr rfl
    · exact hW' p hp
  · iexact HO

end Chunk

end Cert.Proof.TileU

end
-- ==== Proof.TileUDrainLoop.lean ====
/-
  A chunk's drain loop: sixty-four trips of six waits. Before trip k, 6 k rows' credit has been taken off the
  semaphore; the last wait of the last trip hands back every delivery.
-/
import proofs.«218857_g62938450756068_cont_9to1c4b_813_41_alg».proof.Proof.TileUDrain

noncomputable section

namespace Cert.Proof.TileU

open Cert.KernelIdeal Cert.KernelIdeal.Gen Cert.Proof.KernelIdealBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

section Chunk

variable (m : (ℓ : Loc nD τ sig) → Buf (Elt F) ℓ) (d : Dev nD) (L : grid0.Coords)
variable (xs : S512.Idx → BitVec 32) (ns : S2560.Idx → BitVec 32) (c : Fin 8)
variable (fu : Buf (Elt F) ((V d (cV L) (jV L)).loc cc0_scratch2)) (fn : Buf (Elt F) ((V d (cV L) (jV L)).loc cc0_scratch3))
variable (O : CellTallies nD τ sig (HIx 2)) (W : Waits sig (HIx 2))

theorem hskip (n : ℕ) (h : n + 1 < 384) : n * NR + NR < NR * 384 := by
  calc n * NR + NR = (n + 1) * NR := (Nat.succ_mul n NR).symm
    _ < 384 * NR := Nat.mul_lt_mul_of_pos_right h NR_pos
    _ = NR * 384 := Nat.mul_comm _ _
theorem hlast : 383 * NR + NR = NR * 384 := by
  rw [← Nat.succ_mul]; exact Nat.mul_comm _ _

/-- A wait that is not the last, by the number of rows waited for. -/
theorem wait_skip' {α : Type} (hO : ∀ g, O g none = 0) (n : ℕ) (hn : n + 1 < 384)
    {sp' : Space} {s' : Shape} {e' : EltTy} (srcw : Memref sig .scVector sp' s' e') (dstw : Memref sig .scVector .vmem S64 .f32)
    (hcred : dstw.view.dmaCredit = NR) (hs : _) (hd : _)
    (k : PUnit → Prog (TpuEff nD τ sig (Elt F) Λ₀ (.scVector (cV L) (jV L))) α) (Q : α → sProp 𝕄) :
    iprop(□ levAts (K (F := F)).L (K (F := F)).lev ∗ batchU m d L xs ns c fu fn 384 (n * NR) ∗ owesSt d L O W)
      ⊢ iprop((iprop(batchU m d L xs ns c fu fn 384 ((n + 1) * NR) ∗ owesSt d L O W) -∗ wp frame (wpE (defs₀ (F := F)) 𝒱₀ (V d (cV L) (jV L)) none) Set.univ (k ⟨⟩) Q)
          -∗ wp frame (wpE (defs₀ (F := F)) 𝒱₀ (V d (cV L) (jV L)) none) Set.univ (.op (.waitDma2 cc0_scratch5.sem srcw dstw hs hd) k) Q) := by
  rw [Nat.succ_mul]
  exact wait_skip m d L xs ns c fu fn O W hO (n * NR) (hskip n hn) srcw dstw hcred hs hd k Q

/-- Before trip k of the drain loop. -/
def drainSt (k : ℕ) : sProp 𝕄 :=
  iprop(□ levAts (K (F := F)).L (K (F := F)).lev ∗ owesSt d L O W
    ∗ (if k < 64 then batchU m d L xs ns c fu fn 384 (6 * k * NR)
       else iprop(bigSep Finset.univ (DU m d L xs ns c fu fn) ∗ semVal ((V d (cV L) (jV L), SemLoc.dma cc0_scratch5.sem) : GSem nD τ sig) 0)))

end Chunk

/- A trip of a chunk's drain loop, once its text is laid out as six waits: five (or six) that are not the batch's
    last, and on the last trip the last. In scope where it is called: the trip g with g.val < 64 (hg), hO. -/
set_option hygiene false in
macro "drain_proof" c:num : tactic => `(tactic| (
  unfold drainSt
  rw [if_pos hg]
  iintro ⟨#Hlv, HO, HB⟩
  iapply (wait_skip' m d L xs ns $c fu fn O W hO (6 * g.val) (by omega) _ _ rfl _ _ _ _) $$ [HB HO]
  · isplitr; · iexact Hlv
    isplitl [HB] <;> iassumption
  iintro ⟨HB, HO⟩
  iapply (wait_skip' m d L xs ns $c fu fn O W hO (6 * g.val + 1) (by omega) _ _ rfl _ _ _ _) $$ [HB HO]
  · isplitr; · iexact Hlv
    isplitl [HB] <;> iassumption
  iintro ⟨HB, HO⟩
  iapply (wait_skip' m d L xs ns $c fu fn O W hO (6 * g.val + 1 + 1) (by omega) _ _ rfl _ _ _ _) $$ [HB HO]
  · isplitr; · iexact Hlv
    isplitl [HB] <;> iassumption
  iintro ⟨HB, HO⟩
  iapply (wait_skip' m d L xs ns $c fu fn O W hO (6 * g.val + 1 + 1 + 1) (by omega) _ _ rfl _ _ _ _) $$ [HB HO]
  · isplitr; · iexact Hlv
    isplitl [HB] <;> iassumption
  iintro ⟨HB, HO⟩
  iapply (wait_skip' m d L xs ns $c fu fn O W hO (6 * g.val + 1 + 1 + 1 + 1) (by omega) _ _ rfl _ _ _ _) $$ [HB HO]
  · isplitr; · iexact Hlv
    isplitl [HB] <;> iassumption
  iintro ⟨HB, HO⟩
  rcases Nat.lt_or_ge (g.val + 1) 64 with h1 | h1
  · iapply (wait_skip' m d L xs ns $c fu fn O W hO (6 * g.val + 1 + 1 + 1 + 1 + 1) (by omega) _ _ rfl _ _ _ _) $$ [HB HO]
    · isplitr; · iexact Hlv
      isplitl [HB] <;> iassumption
    iintro ⟨HB, HO⟩
    rw [wp_ret]; imodintro
    rw [if_pos h1, show 6 * (g.val + 1) = 6 * g.val + 1 + 1 + 1 + 1 + 1 + 1 by omega]
    isplitr; · iexact Hlv
    isplitl [HO]; · iexact HO
    iexact HB
  · have hg63 : g.val = 63 := by omega
    rw [show (6 * g.val + 1 + 1 + 1 + 1 + 1) * NR = 383 * NR by rw [hg63]]
    iapply (wait_last m d L xs ns $c fu fn O W hO (383 * NR) hlast _ _ rfl _ _ _ _) $$ [HB HO]
    · isplitr; · iexact Hlv
      isplitl [HB] <;> iassumption
    iintro ⟨HD, Hsem, HO⟩
    rw [wp_ret]; imodintro
    rw [if_neg (by omega)]
    isplitr; · iexact Hlv
    isplitl [HO]; · iexact HO
    isplitl [HD] <;> iassumption))

section Chunk0

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))
variable (O : CellTallies nD τ sig (HIx 2)) (W : Waits sig (HIx 2))

set_option maxRecDepth 65536 in
/-- Trip g of the first chunk's drain loop. -/
theorem drain_trip0 (hO : ∀ g, O g none = 0) (v2 : BitVec 32) (g : Fin k0_t2_loop.trips) (acc : Unit) :
    drainSt m d L xs ns 0 fu fn O W g.val
      ⊢ wp frame (wpE (defs₀ (F := F)) 𝒱₀ (V d (cV L) (jV L)) none) Set.univ
          (k0_t2_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 g acc)
          (fun _ => drainSt m d L xs ns 0 fu fn O W (g.val + 1)) := by
  have hg : g.val < 64 := lt_of_lt_of_le g.isLt k0_t2_abs.2.1
  unfold k0_t2_body
  simp only [k0_part34_eq_skeleton]; unfold k0_part34_skel
  simp only [Prog.lift, Prog.bind_op, Prog.bind_ret, Prog.pure_eq_ret]
  drain_proof 0

end Chunk0

end Cert.Proof.TileU

end
-- ==== Proof.TileUDrainC1.lean ====
import proofs.«218857_g62938450756068_cont_9to1c4b_813_41_alg».proof.Proof.TileUDrainLoop

noncomputable section

namespace Cert.Proof.TileU

open Cert.KernelIdeal Cert.KernelIdeal.Gen Cert.Proof.KernelIdealBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))
variable (O : CellTallies nD τ sig (HIx 2)) (W : Waits sig (HIx 2))

set_option maxRecDepth 65536 in
/-- Trip g of chunk 1's drain loop. -/
theorem drain_trip1 (hO : ∀ g, O g none = 0) (v2 : BitVec 32) (g : Fin k0_t5_loop.trips) (acc : Unit) :
    drainSt m d L xs ns 1 fu fn O W g.val
      ⊢ wp frame (wpE (defs₀ (F := F)) 𝒱₀ (V d (cV L) (jV L)) none) Set.univ
          (k0_t5_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 g acc)
          (fun _ => drainSt m d L xs ns 1 fu fn O W (g.val + 1)) := by
  have hg : g.val < 64 := lt_of_lt_of_le g.isLt k0_t5_abs.2.1
  unfold k0_t5_body
  simp only [k0_part71_eq_skeleton]; unfold k0_part71_skel
  simp only [Prog.lift, Prog.bind_op, Prog.bind_ret, Prog.pure_eq_ret]
  drain_proof 1

end Cert.Proof.TileU

end
-- ==== Proof.TileUDrainC2.lean ====
import proofs.«218857_g62938450756068_cont_9to1c4b_813_41_alg».proof.Proof.TileUDrainLoop

noncomputable section

namespace Cert.Proof.TileU

open Cert.KernelIdeal Cert.KernelIdeal.Gen Cert.Proof.KernelIdealBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))
variable (O : CellTallies nD τ sig (HIx 2)) (W : Waits sig (HIx 2))

set_option maxRecDepth 65536 in
/-- Trip g of chunk 2's drain loop. -/
theorem drain_trip2 (hO : ∀ g, O g none = 0) (v2 : BitVec 32) (g : Fin k0_t8_loop.trips) (acc : Unit) :
    drainSt m d L xs ns 2 fu fn O W g.val
      ⊢ wp frame (wpE (defs₀ (F := F)) 𝒱₀ (V d (cV L) (jV L)) none) Set.univ
          (k0_t8_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 g acc)
          (fun _ => drainSt m d L xs ns 2 fu fn O W (g.val + 1)) := by
  have hg : g.val < 64 := lt_of_lt_of_le g.isLt k0_t8_abs.2.1
  unfold k0_t8_body
  simp only [k0_part108_eq_skeleton]; unfold k0_part108_skel
  simp only [Prog.lift, Prog.bind_op, Prog.bind_ret, Prog.pure_eq_ret]
  drain_proof 2

end Cert.Proof.TileU

end
-- ==== Proof.TileUDrainC3.lean ====
import proofs.«218857_g62938450756068_cont_9to1c4b_813_41_alg».proof.Proof.TileUDrainLoop

noncomputable section

namespace Cert.Proof.TileU

open Cert.KernelIdeal Cert.KernelIdeal.Gen Cert.Proof.KernelIdealBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))
variable (O : CellTallies nD τ sig (HIx 2)) (W : Waits sig (HIx 2))

set_option maxRecDepth 65536 in
/-- Trip g of chunk 3's drain loop. -/
theorem drain_trip3 (hO : ∀ g, O g none = 0) (v2 : BitVec 32) (g : Fin k0_t11_loop.trips) (acc : Unit) :
    drainSt m d L xs ns 3 fu fn O W g.val
      ⊢ wp frame (wpE (defs₀ (F := F)) 𝒱₀ (V d (cV L) (jV L)) none) Set.univ
          (k0_t11_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 g acc)
          (fun _ => drainSt m d L xs ns 3 fu fn O W (g.val + 1)) := by
  have hg : g.val < 64 := lt_of_lt_of_le g.isLt k0_t11_abs.2.1
  unfold k0_t11_body
  simp only [k0_part145_eq_skeleton]; unfold k0_part145_skel
  simp only [Prog.lift, Prog.bind_op, Prog.bind_ret, Prog.pure_eq_ret]
  drain_proof 3

end Cert.Proof.TileU

end
-- ==== Proof.TileUDrainC4.lean ====
import proofs.«218857_g62938450756068_cont_9to1c4b_813_41_alg».proof.Proof.TileUDrainLoop

noncomputable section

namespace Cert.Proof.TileU

open Cert.KernelIdeal Cert.KernelIdeal.Gen Cert.Proof.KernelIdealBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))
variable (O : CellTallies nD τ sig (HIx 2)) (W : Waits sig (HIx 2))

set_option maxRecDepth 65536 in
/-- Trip g of chunk 4's drain loop. -/
theorem drain_trip4 (hO : ∀ g, O g none = 0) (v2 : BitVec 32) (g : Fin k0_t14_loop.trips) (acc : Unit) :
    drainSt m d L xs ns 4 fu fn O W g.val
      ⊢ wp frame (wpE (defs₀ (F := F)) 𝒱₀ (V d (cV L) (jV L)) none) Set.univ
          (k0_t14_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 g acc)
          (fun _ => drainSt m d L xs ns 4 fu fn O W (g.val + 1)) := by
  have hg : g.val < 64 := lt_of_lt_of_le g.isLt k0_t14_abs.2.1
  unfold k0_t14_body
  simp only [k0_part182_eq_skeleton]; unfold k0_part182_skel
  simp only [Prog.lift, Prog.bind_op, Prog.bind_ret, Prog.pure_eq_ret]
  drain_proof 4

end Cert.Proof.TileU

end
-- ==== Proof.TileUDrainC5.lean ====
import proofs.«218857_g62938450756068_cont_9to1c4b_813_41_alg».proof.Proof.TileUDrainLoop

noncomputable section

namespace Cert.Proof.TileU

open Cert.KernelIdeal Cert.KernelIdeal.Gen Cert.Proof.KernelIdealBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))
variable (O : CellTallies nD τ sig (HIx 2)) (W : Waits sig (HIx 2))

set_option maxRecDepth 65536 in
/-- Trip g of chunk 5's drain loop. -/
theorem drain_trip5 (hO : ∀ g, O g none = 0) (v2 : BitVec 32) (g : Fin k0_t17_loop.trips) (acc : Unit) :
    drainSt m d L xs ns 5 fu fn O W g.val
      ⊢ wp frame (wpE (defs₀ (F := F)) 𝒱₀ (V d (cV L) (jV L)) none) Set.univ
          (k0_t17_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 g acc)
          (fun _ => drainSt m d L xs ns 5 fu fn O W (g.val + 1)) := by
  have hg : g.val < 64 := lt_of_lt_of_le g.isLt k0_t17_abs.2.1
  unfold k0_t17_body
  simp only [k0_part219_eq_skeleton]; unfold k0_part219_skel
  simp only [Prog.lift, Prog.bind_op, Prog.bind_ret, Prog.pure_eq_ret]
  drain_proof 5

end Cert.Proof.TileU

end
-- ==== Proof.TileUDrainC6.lean ====
import proofs.«218857_g62938450756068_cont_9to1c4b_813_41_alg».proof.Proof.TileUDrainLoop

noncomputable section

namespace Cert.Proof.TileU

open Cert.KernelIdeal Cert.KernelIdeal.Gen Cert.Proof.KernelIdealBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))
variable (O : CellTallies nD τ sig (HIx 2)) (W : Waits sig (HIx 2))

set_option maxRecDepth 65536 in
/-- Trip g of chunk 6's drain loop. -/
theorem drain_trip6 (hO : ∀ g, O g none = 0) (v2 : BitVec 32) (g : Fin k0_t20_loop.trips) (acc : Unit) :
    drainSt m d L xs ns 6 fu fn O W g.val
      ⊢ wp frame (wpE (defs₀ (F := F)) 𝒱₀ (V d (cV L) (jV L)) none) Set.univ
          (k0_t20_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 g acc)
          (fun _ => drainSt m d L xs ns 6 fu fn O W (g.val + 1)) := by
  have hg : g.val < 64 := lt_of_lt_of_le g.isLt k0_t20_abs.2.1
  unfold k0_t20_body
  simp only [k0_part256_eq_skeleton]; unfold k0_part256_skel
  simp only [Prog.lift, Prog.bind_op, Prog.bind_ret, Prog.pure_eq_ret]
  drain_proof 6

end Cert.Proof.TileU

end
-- ==== Proof.TileUDrainC7.lean ====
import proofs.«218857_g62938450756068_cont_9to1c4b_813_41_alg».proof.Proof.TileUDrainLoop

noncomputable section

namespace Cert.Proof.TileU

open Cert.KernelIdeal Cert.KernelIdeal.Gen Cert.Proof.KernelIdealBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))
variable (O : CellTallies nD τ sig (HIx 2)) (W : Waits sig (HIx 2))

set_option maxRecDepth 65536 in
/-- Trip g of chunk 7's drain loop. -/
theorem drain_trip7 (hO : ∀ g, O g none = 0) (v2 : BitVec 32) (g : Fin k0_t23_loop.trips) (acc : Unit) :
    drainSt m d L xs ns 7 fu fn O W g.val
      ⊢ wp frame (wpE (defs₀ (F := F)) 𝒱₀ (V d (cV L) (jV L)) none) Set.univ
          (k0_t23_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 g acc)
          (fun _ => drainSt m d L xs ns 7 fu fn O W (g.val + 1)) := by
  have hg : g.val < 64 := lt_of_lt_of_le g.isLt k0_t23_abs.2.1
  unfold k0_t23_body
  simp only [k0_part293_eq_skeleton]; unfold k0_part293_skel
  simp only [Prog.lift, Prog.bind_op, Prog.bind_ret, Prog.pure_eq_ret]
  drain_proof 7

end Cert.Proof.TileU

end
-- ==== Proof.TileUElem.lean ====
/-
  One element of a chunk of the first SparseCore kernel: the partial products of one batch element.

  A chunk holds 64 batch elements: row e of the 64-row buffer is the context row u of element e, rows 5 e + k
  (k < 5) of the 320-row buffer are its five negative rows n. The trip for element e of chunk c reads the four
  16-lane pieces of u and of each n and stores, for every k, the sixteen numbers
      0 - (((n0 u0 + n1 u1) + n2 u2) + n3 u3)        (lane l of piece t is entry 16 t + l of the row)
  at entries [80 (64 c + e) + 16 k, + 16) of the subcore's 40960-entry output buffer. The trips fill that buffer
  from the front: before the trip its entries below 80 (64 c + e) hold their values, after it those below
  80 (64 c + e + 1). This module has what the eight chunks share: the value, the state, the lanes of a loaded
  row, the five stores' effect on the buffer, and the trip's proof over the chunk's own names.
-/
import proofs.«218857_g62938450756068_cont_9to1c4b_813_41_alg».proof.Proof.TileUDefs
import Idealize.ShloMosaic.Lib.Pipeline.Value

noncomputable section

namespace Cert.Proof.TileU

open Cert.KernelIdeal Cert.KernelIdeal.Gen Cert.Proof.KernelIdealBase

open Idealize.ShloMosaic Idealize.ShloMosaic.ValueIdx
open Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (d : Dev nD) (L : grid0.Coords)

/-- Lane l of the k-th partial product of element e, from the two buffers' contents. -/
def elemVal (FU : S64x64.Idx → F .f32) (FN : S320x64.Idx → F .f32) (e : Fin 64) (k : Fin 5) (l : Fin 16) : F .f32 :=
  FloatOps.subf (Scalar.ofBits .f32 0x00000000#32)
    (FloatOps.addf (FloatOps.addf (FloatOps.addf
      (FloatOps.mulf (FN (ix2 ⟨5 * e.val + k.val, by omega⟩ ⟨l.val, by omega⟩)) (FU (ix2 e ⟨l.val, by omega⟩)))
      (FloatOps.mulf (FN (ix2 ⟨5 * e.val + k.val, by omega⟩ ⟨16 + l.val, by omega⟩)) (FU (ix2 e ⟨16 + l.val, by omega⟩))))
      (FloatOps.mulf (FN (ix2 ⟨5 * e.val + k.val, by omega⟩ ⟨32 + l.val, by omega⟩)) (FU (ix2 e ⟨32 + l.val, by omega⟩))))
      (FloatOps.mulf (FN (ix2 ⟨5 * e.val + k.val, by omega⟩ ⟨48 + l.val, by omega⟩)) (FU (ix2 e ⟨48 + l.val, by omega⟩))))

/-- The two row buffers held whole at their contents, and the output buffer whole at contents that agree with
    `G` on the entries below `n`. -/
def elemSt (FU : Buf (Elt F) ((V d (cV L) (jV L)).loc cc0_scratch2)) (FN : Buf (Elt F) ((V d (cV L) (jV L)).loc cc0_scratch3))
    (G : S40960.Idx → F .f32) (n : ℕ) : sProp 𝕄 :=
  iprop(((Memref.whole cc0_scratch2 : Memref sig .scVector .vmem S64x64 .f32).view.loc (V d (cV L) (jV L)) ↦{fullShare} FU)
    ∗ ((Memref.whole cc0_scratch3 : Memref sig .scVector .vmem S320x64 .f32).view.loc (V d (cV L) (jV L)) ↦{fullShare} FN)
    ∗ ∃ fp : Buf (Elt F) ((V d (cV L) (jV L)).loc cc0_scratch4), ⌜∀ p : S40960.Idx, (p 0).val < n → fp p = G p⌝
        ∗ ((Memref.whole cc0_scratch4 : Memref sig .scVector .vmem S40960 .f32).view.loc (V d (cV L) (jV L)) ↦{fullShare} fp))

/-! ## Lanes of loaded rows -/

/-- Lane l of a 1 × 16 row read as sixteen lanes. -/
theorem cast16 (v : Vec F S1x16 .f32) (l : Fin 16) : shapeCast S16 v shapeCasts_S1x16_S16 (ix1 l) = v (ix2 0 l) :=
  shapeCast_apply v _ (ix1 l) (ix2 0 l) (by rw [Shape.rowMajor_val_two, Shape.rowMajor_val_one]; show 0 * 16 + l.val = l.val; omega)

omit [FloatOps F] in
/-- Sixteen lanes loaded at row r, column c of the 64-row buffer: lane l is entry (r, c + l). -/
theorem readU (FU : Buf (Elt F) ((V d (cV L) (jV L)).loc cc0_scratch2)) (off : Fin 2 → ℕ) (inb : ∀ a, off a + S1x16.size a ≤ S64x64.size a)
    (r c : ℕ) (hoff : off = ![r, c]) (hr : r < 64) (hc : c + 16 ≤ 64) (l : Fin 16) :
    View.readAt (Elt F) (Memref.whole cc0_scratch2 : Memref sig .scVector .vmem S64x64 .f32).view (Rect.unit (s := S64x64) off S1x16.size inb).toLoadRect FU (ix2 0 l)
      = (FU : S64x64.Idx → F .f32) (ix2 ⟨r, hr⟩ ⟨c + l.val, by omega⟩) := by
  subst hoff
  show (FU : S64x64.Idx → F .f32) _ = _
  congr 1
  funext a; apply Fin.ext
  match a with
  | ⟨0, _⟩ => show r + 1 * 0 = r; omega
  | ⟨1, _⟩ => show c + 1 * l.val = c + l.val; omega

omit [FloatOps F] in
/-- The same in the 320-row buffer. -/
theorem readN (FN : Buf (Elt F) ((V d (cV L) (jV L)).loc cc0_scratch3)) (off : Fin 2 → ℕ) (inb : ∀ a, off a + S1x16.size a ≤ S320x64.size a)
    (r c : ℕ) (hoff : off = ![r, c]) (hr : r < 320) (hc : c + 16 ≤ 64) (l : Fin 16) :
    View.readAt (Elt F) (Memref.whole cc0_scratch3 : Memref sig .scVector .vmem S320x64 .f32).view (Rect.unit (s := S320x64) off S1x16.size inb).toLoadRect FN (ix2 0 l)
      = (FN : S320x64.Idx → F .f32) (ix2 ⟨r, hr⟩ ⟨c + l.val, by omega⟩) := by
  subst hoff
  show (FN : S320x64.Idx → F .f32) _ = _
  congr 1
  funext a; apply Fin.ext
  match a with
  | ⟨0, _⟩ => show r + 1 * 0 = r; omega
  | ⟨1, _⟩ => show c + 1 * l.val = c + l.val; omega

/-! ## The output buffer after the five stores -/

/-- Five 16-entry stores at b, b + 16, …, b + 64 whose lanes are `G`'s values extend a buffer that agrees with `G`
    below b to one that agrees with it below b + 80. -/
theorem fill80 (b : ℕ) (fp : Buf (Elt F) ((V d (cV L) (jV L)).loc cc0_scratch4)) (G : S40960.Idx → F .f32)
    (off0 off1 off2 off3 off4 : Fin 1 → ℕ)
    (inb0 : ∀ a, off0 a + S16.size a ≤ S40960.size a) (inb1 : ∀ a, off1 a + S16.size a ≤ S40960.size a)
    (inb2 : ∀ a, off2 a + S16.size a ≤ S40960.size a) (inb3 : ∀ a, off3 a + S16.size a ≤ S40960.size a)
    (inb4 : ∀ a, off4 a + S16.size a ≤ S40960.size a)
    (b0 b1 b2 b3 b4 : ℕ) (o0 : off0 = ![b0]) (o1 : off1 = ![b1]) (o2 : off2 = ![b2]) (o3 : off3 = ![b3]) (o4 : off4 = ![b4])
    (e0 : b0 = b + 16 * 0) (e1 : b1 = b + 16 * 1) (e2 : b2 = b + 16 * 2) (e3 : b3 = b + 16 * 3) (e4 : b4 = b + 16 * 4)
    (w0 w1 w2 w3 w4 : FVec F S16 .f32)
    (hfp : ∀ p : S40960.Idx, (p 0).val < b → fp p = G p)
    (hw0 : ∀ (l : Fin 16) (h : b + 16 * 0 + l.val < 40960), w0 (ix1 l) = G (ix1 ⟨b + 16 * 0 + l.val, h⟩))
    (hw1 : ∀ (l : Fin 16) (h : b + 16 * 1 + l.val < 40960), w1 (ix1 l) = G (ix1 ⟨b + 16 * 1 + l.val, h⟩))
    (hw2 : ∀ (l : Fin 16) (h : b + 16 * 2 + l.val < 40960), w2 (ix1 l) = G (ix1 ⟨b + 16 * 2 + l.val, h⟩))
    (hw3 : ∀ (l : Fin 16) (h : b + 16 * 3 + l.val < 40960), w3 (ix1 l) = G (ix1 ⟨b + 16 * 3 + l.val, h⟩))
    (hw4 : ∀ (l : Fin 16) (h : b + 16 * 4 + l.val < 40960), w4 (ix1 l) = G (ix1 ⟨b + 16 * 4 + l.val, h⟩))
    (p : S40960.Idx) (hp : (p 0).val < b + 80) :
    (Memref.whole cc0_scratch4 : Memref sig .scVector .vmem S40960 .f32).view.writes (Elt F) fp
      [⟨Rect.unit (s := S40960) off4 S16.size inb4, w4⟩, ⟨Rect.unit (s := S40960) off3 S16.size inb3, w3⟩,
       ⟨Rect.unit (s := S40960) off2 S16.size inb2, w2⟩, ⟨Rect.unit (s := S40960) off1 S16.size inb1, w1⟩,
       ⟨Rect.unit (s := S40960) off0 S16.size inb0, w0⟩] p = G p := by
  subst o0 o1 o2 o3 o4 e1 e2 e3 e4
  have e0' : b = b0 := by omega
  subst e0'
  -- membership in a store's sixteen entries, by arithmetic on the one coordinate
  have mem : ∀ (c : ℕ) (inb : ∀ a, (![c] : Fin 1 → ℕ) a + S16.size a ≤ S40960.size a),
      (p ∈ (Rect.unit (s := S40960) ![c] S16.size inb).set ↔ c ≤ (p 0).val ∧ (p 0).val < c + 16) := by
    intro c inb
    rw [Rect.mem_set_unit]
    constructor
    · intro h; exact h 0
    · intro h a; match a with | ⟨0, _⟩ => exact h
  have rd : ∀ g : Buf (Elt F) ((V d (cV L) (jV L)).loc cc0_scratch4),
      View.read (Elt F) (Memref.whole cc0_scratch4 : Memref sig .scVector .vmem S40960 .f32).view g p = g p := fun _ => rfl
  refine (rd _).symm.trans ?_
  by_cases hlt : (p 0).val < b
  · refine (View.read_writes_apply_of_forall_not_mem (Memref.whole cc0_scratch4 : Memref sig .scVector .vmem S40960 .f32).view fp p _ ?_).trans (hfp p hlt)
    intro q hq
    simp only [List.mem_cons, List.not_mem_nil, _root_.or_false] at hq
    rcases hq with rfl | rfl | rfl | rfl | rfl
    · exact fun h => by have := (mem _ inb4).mp h; omega
    · exact fun h => by have := (mem _ inb3).mp h; omega
    · exact fun h => by have := (mem _ inb2).mp h; omega
    · exact fun h => by have := (mem _ inb1).mp h; omega
    · exact fun h => by have := (mem _ inb0).mp h; omega
  · refine View.read_writes_apply_of_pieces (Memref.whole cc0_scratch4 : Memref sig .scVector .vmem S40960 .f32).view fp G _ ?_ p ?_
    · -- every store's lanes are G's values
      have lane : ∀ (c : ℕ) (inb : ∀ a, (![c] : Fin 1 → ℕ) a + S16.size a ≤ S40960.size a) (w : FVec F S16 .f32),
          (∀ (l : Fin 16) (h : c + l.val < 40960), w (ix1 l) = G (ix1 ⟨c + l.val, h⟩)) →
          ∀ x : (Rect.unit (s := S40960) ![c] S16.size inb).shape.Idx, w x = G ((Rect.unit (s := S40960) ![c] S16.size inb).emb x) := by
        intro c inb w hw x
        obtain ⟨l, rfl⟩ : ∃ l : Fin 16, x = ix1 l := ⟨x 0, eq_ix1 x⟩
        have h0 : c + 16 ≤ 40960 := inb 0
        have hlt : c + l.val < 40960 := by have := l.isLt; omega
        rw [hw l hlt]
        congr 1
        funext a; apply Fin.ext
        match a with | ⟨0, _⟩ => show c + l.val = c + 1 * l.val; omega
      intro q hq
      simp only [List.mem_cons, List.not_mem_nil, _root_.or_false] at hq
      rcases hq with rfl | rfl | rfl | rfl | rfl
      · exact lane _ inb4 w4 hw4
      · exact lane _ inb3 w3 hw3
      · exact lane _ inb2 w2 hw2
      · exact lane _ inb1 w1 hw1
      · exact lane _ inb0 w0 hw0
    · -- the entry lies in one of the five stores
      have h5 : (p 0).val < b + 16 ∨ (b + 16 ≤ (p 0).val ∧ (p 0).val < b + 32) ∨ (b + 32 ≤ (p 0).val ∧ (p 0).val < b + 48)
          ∨ (b + 48 ≤ (p 0).val ∧ (p 0).val < b + 64) ∨ b + 64 ≤ (p 0).val := by omega
      rcases h5 with h | h | h | h | h
      · exact ⟨_, .tail _ (.tail _ (.tail _ (.tail _ (.head _)))), (mem _ inb0).mpr (by omega)⟩
      · exact ⟨_, .tail _ (.tail _ (.tail _ (.head _))), (mem _ inb1).mpr (by omega)⟩
      · exact ⟨_, .tail _ (.tail _ (.head _)), (mem _ inb2).mpr (by omega)⟩
      · exact ⟨_, .tail _ (.head _), (mem _ inb3).mpr (by omega)⟩
      · exact ⟨_, .head _, (mem _ inb4).mpr (by omega)⟩

/-! ## The stored value at a lane -/

/-- The partial product of four lane pairs: 0 - (((n0 u0 + n1 u1) + n2 u2) + n3 u3). -/
def dot4 (n0 u0 n1 u1 n2 u2 n3 u3 : F .f32) : F .f32 :=
  FloatOps.subf (Scalar.ofBits .f32 0x00000000#32)
    (FloatOps.addf (FloatOps.addf (FloatOps.addf (FloatOps.mulf n0 u0) (FloatOps.mulf n1 u1)) (FloatOps.mulf n2 u2)) (FloatOps.mulf n3 u3))

/-- The value of element e's k-th partial product at lane l, from the four pieces of the two rows as loaded: the
    loads' offsets are row e at columns 0, 16, 32, 48 of the 64-row buffer and row 5 e + k of the 320-row buffer. -/
theorem elemVal_eq (FU : Buf (Elt F) ((V d (cV L) (jV L)).loc cc0_scratch2)) (FN : Buf (Elt F) ((V d (cV L) (jV L)).loc cc0_scratch3))
    (e : Fin 64) (k : Fin 5) (l : Fin 16)
    (oU0 oU1 oU2 oU3 oN0 oN1 oN2 oN3 : Fin 2 → ℕ)
    (iU0 : ∀ a, oU0 a + S1x16.size a ≤ S64x64.size a) (iU1 : ∀ a, oU1 a + S1x16.size a ≤ S64x64.size a)
    (iU2 : ∀ a, oU2 a + S1x16.size a ≤ S64x64.size a) (iU3 : ∀ a, oU3 a + S1x16.size a ≤ S64x64.size a)
    (iN0 : ∀ a, oN0 a + S1x16.size a ≤ S320x64.size a) (iN1 : ∀ a, oN1 a + S1x16.size a ≤ S320x64.size a)
    (iN2 : ∀ a, oN2 a + S1x16.size a ≤ S320x64.size a) (iN3 : ∀ a, oN3 a + S1x16.size a ≤ S320x64.size a)
    (hU0 : oU0 = ![e.val, 0]) (hU1 : oU1 = ![e.val, 16]) (hU2 : oU2 = ![e.val, 32]) (hU3 : oU3 = ![e.val, 48])
    (hN0 : oN0 = ![5 * e.val + k.val, 0]) (hN1 : oN1 = ![5 * e.val + k.val, 16])
    (hN2 : oN2 = ![5 * e.val + k.val, 32]) (hN3 : oN3 = ![5 * e.val + k.val, 48]) :
    dot4
      (View.readAt (Elt F) (Memref.whole cc0_scratch3 : Memref sig .scVector .vmem S320x64 .f32).view (Rect.unit (s := S320x64) oN0 S1x16.size iN0).toLoadRect FN (ix2 0 l))
      (View.readAt (Elt F) (Memref.whole cc0_scratch2 : Memref sig .scVector .vmem S64x64 .f32).view (Rect.unit (s := S64x64) oU0 S1x16.size iU0).toLoadRect FU (ix2 0 l))
      (View.readAt (Elt F) (Memref.whole cc0_scratch3 : Memref sig .scVector .vmem S320x64 .f32).view (Rect.unit (s := S320x64) oN1 S1x16.size iN1).toLoadRect FN (ix2 0 l))
      (View.readAt (Elt F) (Memref.whole cc0_scratch2 : Memref sig .scVector .vmem S64x64 .f32).view (Rect.unit (s := S64x64) oU1 S1x16.size iU1).toLoadRect FU (ix2 0 l))
      (View.readAt (Elt F) (Memref.whole cc0_scratch3 : Memref sig .scVector .vmem S320x64 .f32).view (Rect.unit (s := S320x64) oN2 S1x16.size iN2).toLoadRect FN (ix2 0 l))
      (View.readAt (Elt F) (Memref.whole cc0_scratch2 : Memref sig .scVector .vmem S64x64 .f32).view (Rect.unit (s := S64x64) oU2 S1x16.size iU2).toLoadRect FU (ix2 0 l))
      (View.readAt (Elt F) (Memref.whole cc0_scratch3 : Memref sig .scVector .vmem S320x64 .f32).view (Rect.unit (s := S320x64) oN3 S1x16.size iN3).toLoadRect FN (ix2 0 l))
      (View.readAt (Elt F) (Memref.whole cc0_scratch2 : Memref sig .scVector .vmem S64x64 .f32).view (Rect.unit (s := S64x64) oU3 S1x16.size iU3).toLoadRect FU (ix2 0 l))
      = elemVal FU FN e k l := by
  have hk := k.isLt
  have he := e.isLt
  rw [readN d L FN _ _ _ 0 hN0 (by omega) (by omega) l, readN d L FN _ _ _ 16 hN1 (by omega) (by omega) l,
    readN d L FN _ _ _ 32 hN2 (by omega) (by omega) l, readN d L FN _ _ _ 48 hN3 (by omega) (by omega) l,
    readU d L FU _ _ _ 0 hU0 he (by omega) l, readU d L FU _ _ _ 16 hU1 he (by omega) l,
    readU d L FU _ _ _ 32 hU2 he (by omega) l, readU d L FU _ _ _ 48 hU3 he (by omega) l]
  unfold elemVal dot4
  simp only [Nat.zero_add]

/-! ## The trip's proof, once for the eight chunks

The eight chunks' trips are the same text over their own names for the loop, the nine offset functions and the
twelve stored or carried vectors: the proof takes those names. `c` is the chunk's number. -/

set_option hygiene false in
/-- The element trip of chunk `c`: run the trip, then the five stores extend the filled part of the output buffer by
    the element's eighty values. -/
macro "elem_proof" c:num abs:ident body:ident
    uq0:ident uq1:ident uq2:ident uq3:ident nq0:ident nq1:ident nq2:ident nq3:ident sq:ident sinb:ident
    p104:ident p105:ident p106:ident p107:ident p108:ident p109:ident p110:ident p111:ident p112:ident p113:ident p114:ident p900:ident : tactic =>
  `(tactic| (
    have he : e.val < 64 := Nat.lt_of_lt_of_le e.isLt ($abs).2.1
    unfold elemSt
    unfold $body
    iintro ⟨HU, HN, %fp, %hfp, Hp⟩
    sl_exec
    sl_step
    isplitl [HU]; · iexact HU
    isplitl [HN]; · iexact HN
    iexists _; isplitr; swap; (· iexact Hp)
    ipureintro
    sl_unfold_run_names
    intro p hp
    refine fill80 d L (80 * (64 * $c + e.val)) fp G _ _ _ _ _ ($sinb e 0) ($sinb e 1) ($sinb e 2) ($sinb e 3) ($sinb e 4) _ _ _ _ _
      ($sq e ⟨0, by decide⟩) ($sq e ⟨1, by decide⟩) ($sq e ⟨2, by decide⟩) ($sq e ⟨3, by decide⟩) ($sq e ⟨4, by decide⟩)
      (by first | omega | (simp only [Fin.val_mk]; omega)) (by first | omega | (simp only [Fin.val_mk]; omega)) (by first | omega | (simp only [Fin.val_mk]; omega)) (by first | omega | (simp only [Fin.val_mk]; omega)) (by first | omega | (simp only [Fin.val_mk]; omega))
      _ _ _ _ _ hfp ?_ ?_ ?_ ?_ ?_ p (by omega)
    all_goals (
      intro l h
      simp only [$p104:ident, $p105:ident, $p106:ident, $p107:ident, $p108:ident, $p109:ident, $p110:ident, $p111:ident, $p112:ident, $p113:ident,
        $p114:ident, $p900:ident, shapeCast_self, mulf, addf, subf, broadcast]
      repeat rw [cast16])
    · exact (elemVal_eq d L FU FN ⟨e.val, he⟩ ⟨0, by decide⟩ l _ _ _ _ _ _ _ _ _ _ _ _ _ _ _ _ ($uq0 e) ($uq1 e) ($uq2 e) ($uq3 e)
        ($nq0 e ⟨0, by decide⟩) ($nq1 e ⟨0, by decide⟩) ($nq2 e ⟨0, by decide⟩) ($nq3 e ⟨0, by decide⟩)).trans (hG ⟨e.val, he⟩ ⟨0, by decide⟩ l).symm
    · exact (elemVal_eq d L FU FN ⟨e.val, he⟩ ⟨1, by decide⟩ l _ _ _ _ _ _ _ _ _ _ _ _ _ _ _ _ ($uq0 e) ($uq1 e) ($uq2 e) ($uq3 e)
        ($nq0 e ⟨1, by decide⟩) ($nq1 e ⟨1, by decide⟩) ($nq2 e ⟨1, by decide⟩) ($nq3 e ⟨1, by decide⟩)).trans (hG ⟨e.val, he⟩ ⟨1, by decide⟩ l).symm
    · exact (elemVal_eq d L FU FN ⟨e.val, he⟩ ⟨2, by decide⟩ l _ _ _ _ _ _ _ _ _ _ _ _ _ _ _ _ ($uq0 e) ($uq1 e) ($uq2 e) ($uq3 e)
        ($nq0 e ⟨2, by decide⟩) ($nq1 e ⟨2, by decide⟩) ($nq2 e ⟨2, by decide⟩) ($nq3 e ⟨2, by decide⟩)).trans (hG ⟨e.val, he⟩ ⟨2, by decide⟩ l).symm
    · exact (elemVal_eq d L FU FN ⟨e.val, he⟩ ⟨3, by decide⟩ l _ _ _ _ _ _ _ _ _ _ _ _ _ _ _ _ ($uq0 e) ($uq1 e) ($uq2 e) ($uq3 e)
        ($nq0 e ⟨3, by decide⟩) ($nq1 e ⟨3, by decide⟩) ($nq2 e ⟨3, by decide⟩) ($nq3 e ⟨3, by decide⟩)).trans (hG ⟨e.val, he⟩ ⟨3, by decide⟩ l).symm
    · exact (elemVal_eq d L FU FN ⟨e.val, he⟩ ⟨4, by decide⟩ l _ _ _ _ _ _ _ _ _ _ _ _ _ _ _ _ ($uq0 e) ($uq1 e) ($uq2 e) ($uq3 e)
        ($nq0 e ⟨4, by decide⟩) ($nq1 e ⟨4, by decide⟩) ($nq2 e ⟨4, by decide⟩) ($nq3 e ⟨4, by decide⟩)).trans (hG ⟨e.val, he⟩ ⟨4, by decide⟩ l).symm))

end Cert.Proof.TileU

end
-- ==== Proof.TileUElemC0.lean ====
/-
  The element trip of chunk 0 of the first SparseCore kernel: the trip for element e stores the element's eighty
  partial products at entries [80 (64 · 0 + e), + 80) of the output buffer, extending its filled part.
-/
import proofs.«218857_g62938450756068_cont_9to1c4b_813_41_alg».proof.Proof.TileUElem

noncomputable section

namespace Cert.Proof.TileU

open Cert.KernelIdeal Cert.KernelIdeal.Gen Cert.Proof.KernelIdealBase

open Idealize.ShloMosaic Idealize.ShloMosaic.ValueIdx
open Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (d : Dev nD) (L : grid0.Coords)

set_option maxHeartbeats 4000000 in
theorem elem_trip0 (FU : Buf (Elt F) ((V d (cV L) (jV L)).loc cc0_scratch2)) (FN : Buf (Elt F) ((V d (cV L) (jV L)).loc cc0_scratch3))
    (G : S40960.Idx → F .f32)
    (hG : ∀ (e : Fin 64) (k : Fin 5) (l : Fin 16), G (ix1 ⟨80 * (64 * 0 + e.val) + 16 * k.val + l.val, by omega⟩) = elemVal FU FN e k l)
    (v2 : BitVec 32) (e : Fin k0_t3_loop.trips) (acc : Unit) :
    elemSt d L FU FN G (80 * (64 * 0 + e.val))
      ⊢ wp frame (wpE (defs₀ (F := F)) 𝒱₀ (V d (cV L) (jV L)) none) Set.univ
          (k0_t3_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 e acc)
          (fun _ => elemSt d L FU FN G (80 * (64 * 0 + (e.val + 1)))) := by
  elem_proof 0 k0_t3_abs k0_t3_body k0_off229_eq k0_off230_eq k0_off231_eq k0_off232_eq k0_off233_eq k0_off234_eq k0_off235_eq k0_off236_eq k0_off237_eq k0_off237_inb k0_pay104 k0_pay105 k0_pay106 k0_pay107 k0_pay108 k0_pay109 k0_pay110 k0_pay111 k0_pay112 k0_pay113 k0_pay114 k0_pay900

end Cert.Proof.TileU

end
-- ==== Proof.TileUElemC1.lean ====
/-
  The element trip of chunk 1 of the first SparseCore kernel: the trip for element e stores the element's eighty
  partial products at entries [80 (64 · 1 + e), + 80) of the output buffer, extending its filled part.
-/
import proofs.«218857_g62938450756068_cont_9to1c4b_813_41_alg».proof.Proof.TileUElem

noncomputable section

namespace Cert.Proof.TileU

open Cert.KernelIdeal Cert.KernelIdeal.Gen Cert.Proof.KernelIdealBase

open Idealize.ShloMosaic Idealize.ShloMosaic.ValueIdx
open Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (d : Dev nD) (L : grid0.Coords)

set_option maxHeartbeats 4000000 in
theorem elem_trip1 (FU : Buf (Elt F) ((V d (cV L) (jV L)).loc cc0_scratch2)) (FN : Buf (Elt F) ((V d (cV L) (jV L)).loc cc0_scratch3))
    (G : S40960.Idx → F .f32)
    (hG : ∀ (e : Fin 64) (k : Fin 5) (l : Fin 16), G (ix1 ⟨80 * (64 * 1 + e.val) + 16 * k.val + l.val, by omega⟩) = elemVal FU FN e k l)
    (v2 : BitVec 32) (e : Fin k0_t6_loop.trips) (acc : Unit) :
    elemSt d L FU FN G (80 * (64 * 1 + e.val))
      ⊢ wp frame (wpE (defs₀ (F := F)) 𝒱₀ (V d (cV L) (jV L)) none) Set.univ
          (k0_t6_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 e acc)
          (fun _ => elemSt d L FU FN G (80 * (64 * 1 + (e.val + 1)))) := by
  elem_proof 1 k0_t6_abs k0_t6_body k0_off465_eq k0_off466_eq k0_off467_eq k0_off468_eq k0_off469_eq k0_off470_eq k0_off471_eq k0_off472_eq k0_off473_eq k0_off473_inb k0_pay216 k0_pay217 k0_pay218 k0_pay219 k0_pay220 k0_pay221 k0_pay222 k0_pay223 k0_pay224 k0_pay225 k0_pay226 k0_pay902

end Cert.Proof.TileU

end
-- ==== Proof.TileUElemC2.lean ====
/-
  The element trip of chunk 2 of the first SparseCore kernel: the trip for element e stores the element's eighty
  partial products at entries [80 (64 · 2 + e), + 80) of the output buffer, extending its filled part.
-/
import proofs.«218857_g62938450756068_cont_9to1c4b_813_41_alg».proof.Proof.TileUElem

noncomputable section

namespace Cert.Proof.TileU

open Cert.KernelIdeal Cert.KernelIdeal.Gen Cert.Proof.KernelIdealBase

open Idealize.ShloMosaic Idealize.ShloMosaic.ValueIdx
open Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (d : Dev nD) (L : grid0.Coords)

set_option maxHeartbeats 4000000 in
theorem elem_trip2 (FU : Buf (Elt F) ((V d (cV L) (jV L)).loc cc0_scratch2)) (FN : Buf (Elt F) ((V d (cV L) (jV L)).loc cc0_scratch3))
    (G : S40960.Idx → F .f32)
    (hG : ∀ (e : Fin 64) (k : Fin 5) (l : Fin 16), G (ix1 ⟨80 * (64 * 2 + e.val) + 16 * k.val + l.val, by omega⟩) = elemVal FU FN e k l)
    (v2 : BitVec 32) (e : Fin k0_t9_loop.trips) (acc : Unit) :
    elemSt d L FU FN G (80 * (64 * 2 + e.val))
      ⊢ wp frame (wpE (defs₀ (F := F)) 𝒱₀ (V d (cV L) (jV L)) none) Set.univ
          (k0_t9_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 e acc)
          (fun _ => elemSt d L FU FN G (80 * (64 * 2 + (e.val + 1)))) := by
  elem_proof 2 k0_t9_abs k0_t9_body k0_off700_eq k0_off701_eq k0_off702_eq k0_off703_eq k0_off704_eq k0_off705_eq k0_off706_eq k0_off707_eq k0_off708_eq k0_off708_inb k0_pay328 k0_pay329 k0_pay330 k0_pay331 k0_pay332 k0_pay333 k0_pay334 k0_pay335 k0_pay336 k0_pay337 k0_pay338 k0_pay904

end Cert.Proof.TileU

end
-- ==== Proof.TileUElemC3.lean ====
/-
  The element trip of chunk 3 of the first SparseCore kernel: the trip for element e stores the element's eighty
  partial products at entries [80 (64 · 3 + e), + 80) of the output buffer, extending its filled part.
-/
import proofs.«218857_g62938450756068_cont_9to1c4b_813_41_alg».proof.Proof.TileUElem

noncomputable section

namespace Cert.Proof.TileU

open Cert.KernelIdeal Cert.KernelIdeal.Gen Cert.Proof.KernelIdealBase

open Idealize.ShloMosaic Idealize.ShloMosaic.ValueIdx
open Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (d : Dev nD) (L : grid0.Coords)

set_option maxHeartbeats 4000000 in
theorem elem_trip3 (FU : Buf (Elt F) ((V d (cV L) (jV L)).loc cc0_scratch2)) (FN : Buf (Elt F) ((V d (cV L) (jV L)).loc cc0_scratch3))
    (G : S40960.Idx → F .f32)
    (hG : ∀ (e : Fin 64) (k : Fin 5) (l : Fin 16), G (ix1 ⟨80 * (64 * 3 + e.val) + 16 * k.val + l.val, by omega⟩) = elemVal FU FN e k l)
    (v2 : BitVec 32) (e : Fin k0_t12_loop.trips) (acc : Unit) :
    elemSt d L FU FN G (80 * (64 * 3 + e.val))
      ⊢ wp frame (wpE (defs₀ (F := F)) 𝒱₀ (V d (cV L) (jV L)) none) Set.univ
          (k0_t12_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 e acc)
          (fun _ => elemSt d L FU FN G (80 * (64 * 3 + (e.val + 1)))) := by
  elem_proof 3 k0_t12_abs k0_t12_body k0_off935_eq k0_off936_eq k0_off937_eq k0_off938_eq k0_off939_eq k0_off940_eq k0_off941_eq k0_off942_eq k0_off943_eq k0_off943_inb k0_pay440 k0_pay441 k0_pay442 k0_pay443 k0_pay444 k0_pay445 k0_pay446 k0_pay447 k0_pay448 k0_pay449 k0_pay450 k0_pay906

end Cert.Proof.TileU

end
-- ==== Proof.TileUElemC4.lean ====
/-
  The element trip of chunk 4 of the first SparseCore kernel: the trip for element e stores the element's eighty
  partial products at entries [80 (64 · 4 + e), + 80) of the output buffer, extending its filled part.
-/
import proofs.«218857_g62938450756068_cont_9to1c4b_813_41_alg».proof.Proof.TileUElem

noncomputable section

namespace Cert.Proof.TileU

open Cert.KernelIdeal Cert.KernelIdeal.Gen Cert.Proof.KernelIdealBase

open Idealize.ShloMosaic Idealize.ShloMosaic.ValueIdx
open Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (d : Dev nD) (L : grid0.Coords)

set_option maxHeartbeats 4000000 in
theorem elem_trip4 (FU : Buf (Elt F) ((V d (cV L) (jV L)).loc cc0_scratch2)) (FN : Buf (Elt F) ((V d (cV L) (jV L)).loc cc0_scratch3))
    (G : S40960.Idx → F .f32)
    (hG : ∀ (e : Fin 64) (k : Fin 5) (l : Fin 16), G (ix1 ⟨80 * (64 * 4 + e.val) + 16 * k.val + l.val, by omega⟩) = elemVal FU FN e k l)
    (v2 : BitVec 32) (e : Fin k0_t15_loop.trips) (acc : Unit) :
    elemSt d L FU FN G (80 * (64 * 4 + e.val))
      ⊢ wp frame (wpE (defs₀ (F := F)) 𝒱₀ (V d (cV L) (jV L)) none) Set.univ
          (k0_t15_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 e acc)
          (fun _ => elemSt d L FU FN G (80 * (64 * 4 + (e.val + 1)))) := by
  elem_proof 4 k0_t15_abs k0_t15_body k0_off1170_eq k0_off1171_eq k0_off1172_eq k0_off1173_eq k0_off1174_eq k0_off1175_eq k0_off1176_eq k0_off1177_eq k0_off1178_eq k0_off1178_inb k0_pay552 k0_pay553 k0_pay554 k0_pay555 k0_pay556 k0_pay557 k0_pay558 k0_pay559 k0_pay560 k0_pay561 k0_pay562 k0_pay908

end Cert.Proof.TileU

end
-- ==== Proof.TileUElemC5.lean ====
/-
  The element trip of chunk 5 of the first SparseCore kernel: the trip for element e stores the element's eighty
  partial products at entries [80 (64 · 5 + e), + 80) of the output buffer, extending its filled part.
-/
import proofs.«218857_g62938450756068_cont_9to1c4b_813_41_alg».proof.Proof.TileUElem

noncomputable section

namespace Cert.Proof.TileU

open Cert.KernelIdeal Cert.KernelIdeal.Gen Cert.Proof.KernelIdealBase

open Idealize.ShloMosaic Idealize.ShloMosaic.ValueIdx
open Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (d : Dev nD) (L : grid0.Coords)

set_option maxHeartbeats 4000000 in
theorem elem_trip5 (FU : Buf (Elt F) ((V d (cV L) (jV L)).loc cc0_scratch2)) (FN : Buf (Elt F) ((V d (cV L) (jV L)).loc cc0_scratch3))
    (G : S40960.Idx → F .f32)
    (hG : ∀ (e : Fin 64) (k : Fin 5) (l : Fin 16), G (ix1 ⟨80 * (64 * 5 + e.val) + 16 * k.val + l.val, by omega⟩) = elemVal FU FN e k l)
    (v2 : BitVec 32) (e : Fin k0_t18_loop.trips) (acc : Unit) :
    elemSt d L FU FN G (80 * (64 * 5 + e.val))
      ⊢ wp frame (wpE (defs₀ (F := F)) 𝒱₀ (V d (cV L) (jV L)) none) Set.univ
          (k0_t18_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 e acc)
          (fun _ => elemSt d L FU FN G (80 * (64 * 5 + (e.val + 1)))) := by
  elem_proof 5 k0_t18_abs k0_t18_body k0_off1405_eq k0_off1406_eq k0_off1407_eq k0_off1408_eq k0_off1409_eq k0_off1410_eq k0_off1411_eq k0_off1412_eq k0_off1413_eq k0_off1413_inb k0_pay664 k0_pay665 k0_pay666 k0_pay667 k0_pay668 k0_pay669 k0_pay670 k0_pay671 k0_pay672 k0_pay673 k0_pay674 k0_pay910

end Cert.Proof.TileU

end
-- ==== Proof.TileUElemC6.lean ====
/-
  The element trip of chunk 6 of the first SparseCore kernel: the trip for element e stores the element's eighty
  partial products at entries [80 (64 · 6 + e), + 80) of the output buffer, extending its filled part.
-/
import proofs.«218857_g62938450756068_cont_9to1c4b_813_41_alg».proof.Proof.TileUElem

noncomputable section

namespace Cert.Proof.TileU

open Cert.KernelIdeal Cert.KernelIdeal.Gen Cert.Proof.KernelIdealBase

open Idealize.ShloMosaic Idealize.ShloMosaic.ValueIdx
open Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (d : Dev nD) (L : grid0.Coords)

set_option maxHeartbeats 4000000 in
theorem elem_trip6 (FU : Buf (Elt F) ((V d (cV L) (jV L)).loc cc0_scratch2)) (FN : Buf (Elt F) ((V d (cV L) (jV L)).loc cc0_scratch3))
    (G : S40960.Idx → F .f32)
    (hG : ∀ (e : Fin 64) (k : Fin 5) (l : Fin 16), G (ix1 ⟨80 * (64 * 6 + e.val) + 16 * k.val + l.val, by omega⟩) = elemVal FU FN e k l)
    (v2 : BitVec 32) (e : Fin k0_t21_loop.trips) (acc : Unit) :
    elemSt d L FU FN G (80 * (64 * 6 + e.val))
      ⊢ wp frame (wpE (defs₀ (F := F)) 𝒱₀ (V d (cV L) (jV L)) none) Set.univ
          (k0_t21_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 e acc)
          (fun _ => elemSt d L FU FN G (80 * (64 * 6 + (e.val + 1)))) := by
  elem_proof 6 k0_t21_abs k0_t21_body k0_off1640_eq k0_off1641_eq k0_off1642_eq k0_off1643_eq k0_off1644_eq k0_off1645_eq k0_off1646_eq k0_off1647_eq k0_off1648_eq k0_off1648_inb k0_pay776 k0_pay777 k0_pay778 k0_pay779 k0_pay780 k0_pay781 k0_pay782 k0_pay783 k0_pay784 k0_pay785 k0_pay786 k0_pay912

end Cert.Proof.TileU

end
-- ==== Proof.TileUElemC7.lean ====
/-
  The element trip of chunk 7 of the first SparseCore kernel: the trip for element e stores the element's eighty
  partial products at entries [80 (64 · 7 + e), + 80) of the output buffer, extending its filled part.
-/
import proofs.«218857_g62938450756068_cont_9to1c4b_813_41_alg».proof.Proof.TileUElem

noncomputable section

namespace Cert.Proof.TileU

open Cert.KernelIdeal Cert.KernelIdeal.Gen Cert.Proof.KernelIdealBase

open Idealize.ShloMosaic Idealize.ShloMosaic.ValueIdx
open Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (d : Dev nD) (L : grid0.Coords)

set_option maxHeartbeats 4000000 in
theorem elem_trip7 (FU : Buf (Elt F) ((V d (cV L) (jV L)).loc cc0_scratch2)) (FN : Buf (Elt F) ((V d (cV L) (jV L)).loc cc0_scratch3))
    (G : S40960.Idx → F .f32)
    (hG : ∀ (e : Fin 64) (k : Fin 5) (l : Fin 16), G (ix1 ⟨80 * (64 * 7 + e.val) + 16 * k.val + l.val, by omega⟩) = elemVal FU FN e k l)
    (v2 : BitVec 32) (e : Fin k0_t24_loop.trips) (acc : Unit) :
    elemSt d L FU FN G (80 * (64 * 7 + e.val))
      ⊢ wp frame (wpE (defs₀ (F := F)) 𝒱₀ (V d (cV L) (jV L)) none) Set.univ
          (k0_t24_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 e acc)
          (fun _ => elemSt d L FU FN G (80 * (64 * 7 + (e.val + 1)))) := by
  elem_proof 7 k0_t24_abs k0_t24_body k0_off1875_eq k0_off1876_eq k0_off1877_eq k0_off1878_eq k0_off1879_eq k0_off1880_eq k0_off1881_eq k0_off1882_eq k0_off1883_eq k0_off1883_inb k0_pay888 k0_pay889 k0_pay890 k0_pay891 k0_pay892 k0_pay893 k0_pay894 k0_pay895 k0_pay896 k0_pay897 k0_pay898 k0_pay2

end Cert.Proof.TileU

end
-- ==== Proof.TileULanded.lean ====
/-
  What one chunk's 384 row copies leave, joined: the two staging buffers whole, each row holding the table row
  its index word names, and the subcore's read share of the table whole again.

  Row e of the 64-row buffer, once landed, reads table row "chunk's e-th context word" at the same column; row r
  of the 320-row buffer reads table row "chunk's r-th negative word". Transfer t = 6 e + q writes row e of the
  first buffer when q = 0 and row 5 e + (q - 1) of the second otherwise, so the 384 transfers' destination rows
  are exactly the 64 + 320 rows of the two buffers, each once. Every transfer hands back the table row it read
  under its own token of the share; that row and the rest of the token make the token whole, and the 384 tokens
  with what was left of the share make the share whole.
-/
import proofs.«218857_g62938450756068_cont_9to1c4b_813_41_alg».proof.Proof.TileUBatch

noncomputable section

namespace Cert.Proof.TileU

open Cert.KernelIdeal Cert.KernelIdeal.Gen Cert.Proof.KernelIdealBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## One row of a two-axis array, as a 64-entry view -/

/-- Entry x of the row-r unit rectangle of an N × 64 array, read as a 64-entry vector, sits at (r, x). -/
theorem row_emb {N : ℕ} (r : Fin N) (inb : ∀ a, (![r.val, 0] : Fin 2 → Nat) a + S1x64.size a ≤ (⟨2, ![N, 64]⟩ : Shape).size a)
    (h : S64.numel = (Rect.unit (s := ⟨2, ![N, 64]⟩) ![r.val, 0] S1x64.size inb).shape.numel) (x : S64.Idx) :
    (Rect.unit (s := ⟨2, ![N, 64]⟩) ![r.val, 0] S1x64.size inb).emb (Shape.reshapeEquiv h x) = ix2 r (x 0) := by
  have hq := Shape.rowMajor_reshapeEquiv h x
  rw [Shape.rowMajor_val_two, Shape.rowMajor_val_one] at hq
  have h0 : ((Shape.reshapeEquiv h x) 0).val < 1 := ((Shape.reshapeEquiv h x) 0).isLt
  have hq' : ((Shape.reshapeEquiv h x) 0).val * 64 + ((Shape.reshapeEquiv h x) 1).val = (x 0).val := hq
  funext a; refine Fin.ext ?_
  rw [Rect.emb_apply]
  match a with
  | ⟨0, _⟩ =>
    show r.val + 1 * ((Shape.reshapeEquiv h x) 0).val = r.val
    omega
  | ⟨1, _⟩ =>
    show 0 + 1 * ((Shape.reshapeEquiv h x) 1).val = (x 0).val
    omega

/-- Two casts along type equations are one cast along any equation between the ends. -/
theorem cast_cast_of_eq {α β γ : Type} (h2 : α = β) (h1 : β = γ) (h : α = γ) (a : α) :
    cast h1 (cast h2 a) = cast h a := by
  subst h2; subst h1; rfl

/-! ## The landed rows -/

section Chunk

variable (m : (ℓ : Loc nD τ sig) → Buf (Elt F) ℓ) (d : Dev nD) (L : grid0.Coords)
variable (xs : S512.Idx → BitVec 32) (ns : S2560.Idx → BitVec 32) (c : Fin 8)
variable (fu : Buf (Elt F) ((V d (cV L) (jV L)).loc cc0_scratch2)) (fn : Buf (Elt F) ((V d (cV L) (jV L)).loc cc0_scratch3))

/-- The 64-row buffer with every row landed: row e holds the table row the chunk's e-th context word names. -/
def FUc : Buf (Elt F) ((V d (cV L) (jV L)).loc cc0_scratch2) :=
  fun y : S64x64.Idx => (m (euLoc d) : S1000000x64.Idx → F .f32) (ix2 (xrow xs c (y 0).val) (y 1))
/-- The 320-row buffer with every row landed: row r holds the table row the chunk's r-th negative word names. -/
def FNc : Buf (Elt F) ((V d (cV L) (jV L)).loc cc0_scratch3) :=
  fun y : S320x64.Idx => (m (euLoc d) : S1000000x64.Idx → F .f32) (ix2 (nrow ns c (y 0).val) (y 1))

/-- On row e, the buffer with row e landed reads the table row at the same column. -/
theorem landU_apply (e : Fin 64) (y : S64x64.Idx) (hy : y ∈ uRowSet e) :
    landU m d L xs c fu e y = FUc m d L xs c y := by
  have hy' : y ∈ (uRow e).view.set := by rw [set_uRow]; exact hy
  obtain ⟨x, -, rfl⟩ := Finset.mem_map.mp hy'
  have hu : (uRow e).view.emb x = ix2 e (x 0) := row_emb e (inbU e) _ x
  have ht : (tRow (xrow xs c e.val)).view.emb x = ix2 (xrow xs c e.val) (x 0) := row_emb (xrow xs c e.val) (inbT _) _ x
  unfold landU
  refine (View.write_emb_of_mem (v := (uRow e).view) (Val := Elt F) fu _ (Finset.mem_univ x)).trans ?_
  show cast _ (cast _ (m (euLoc d) ((tRow (xrow xs c e.val)).view.emb x))) = _
  refine (cast_cast_of_eq _ _ rfl _).trans ?_
  exact (congrArg (m (euLoc d)) ht).trans (congrArg (FUc m d L xs c) hu).symm

/-- On row r, the buffer with row r landed reads the table row at the same column. -/
theorem landN_apply (r : Fin 320) (y : S320x64.Idx) (hy : y ∈ nRowSet r) :
    landN m d L ns c fn r y = FNc m d L ns c y := by
  have hy' : y ∈ (nRow r).view.set := by rw [set_nRow]; exact hy
  obtain ⟨x, -, rfl⟩ := Finset.mem_map.mp hy'
  have hu : (nRow r).view.emb x = ix2 r (x 0) := row_emb r (inbN r) _ x
  have ht : (tRow (nrow ns c r.val)).view.emb x = ix2 (nrow ns c r.val) (x 0) := row_emb (nrow ns c r.val) (inbT _) _ x
  unfold landN
  refine (View.write_emb_of_mem (v := (nRow r).view) (Val := Elt F) fn _ (Finset.mem_univ x)).trans ?_
  show cast _ (cast _ (m (euLoc d) ((tRow (nrow ns c r.val)).view.emb x))) = _
  refine (cast_cast_of_eq _ _ rfl _).trans ?_
  exact (congrArg (m (euLoc d)) ht).trans (congrArg (FNc m d L ns c) hu).symm

/-! ## The 384 deliveries joined -/

/-- The destination row of transfer t at its landed contents, written over the whole-buffer functions. -/
def dstRow (t : Fin 384) : sProp 𝕄 :=
  if t.val % 6 = 0 then
    ((V d (cV L) (jV L)).loc cc0_scratch2 ↦[uRowSet ⟨t.val / 6, uDiv_lt t.isLt⟩]{fullShare} FUc m d L xs c)
  else
    ((V d (cV L) (jV L)).loc cc0_scratch3 ↦[nRowSet ⟨nIdx t.val, nIdx_lt t.isLt⟩]{fullShare} FNc m d L ns c)

/-- The source row of transfer number t under the transfer's token. -/
def srcTok (t : ℕ) : sProp 𝕄 :=
  euLoc d ↦[tRowSet (srcRow xs ns c t)]{Transfers.shareTokN (qw L) t} m (euLoc d)

/-- A delivery is its destination row (at the whole-buffer function) and its source row. -/
theorem DU_eq (t : Fin 384) :
    DU m d L xs ns c fu fn t = iprop(dstRow m d L xs ns c t ∗ srcTok m d L xs ns c t.val) := by
  unfold DU dstRow srcTok srcRow
  by_cases h : t.val % 6 = 0
  · rw [if_pos h, if_pos h, if_pos h,
      pointsTo_congr (fun y hy => landU_apply m d L xs c fu ⟨t.val / 6, uDiv_lt t.isLt⟩ y hy)]
  · rw [if_neg h, if_neg h, if_neg h,
      pointsTo_congr (fun y hy => landN_apply m d L ns c fn ⟨nIdx t.val, nIdx_lt t.isLt⟩ y hy)]

/-- A transfer's source row and the rest of its token are the token whole. -/
theorem srcTok_restTok (t : ℕ) :
    iprop(srcTok m d L xs ns c t ∗ restTok m d L xs ns c t)
      = (euLoc d ↦{Transfers.shareTokN (qw L) t} m (euLoc d) : sProp 𝕄) := by
  unfold srcTok restTok
  have h := pointsTo_split_subset (Ix := HIx 2) (Val := Elt F) (Name := ℕ) (U := UU) (Lvl := ℕ) (ℓ := euLoc d) (q := Transfers.shareTokN (qw L) t) (f := m (euLoc d))
    (Finset.subset_univ (tRowSet (srcRow xs ns c t)))
  exact (BI.equiv_iff.mp ⟨h.1, h.2⟩).symm

/-- The rows written by the transfers t = 6 e are the 64 rows of the first buffer, each once. -/
theorem dst_first :
    bigSep (Finset.univ.filter fun t : Fin 384 => t.val % 6 = 0) (dstRow m d L xs ns c)
      = ((V d (cV L) (jV L)).loc cc0_scratch2 ↦{fullShare} FUc m d L xs c : sProp 𝕄) := by
  have hcongr : bigSep (Finset.univ.filter fun t : Fin 384 => t.val % 6 = 0) (dstRow m d L xs ns c)
      = bigSep (Finset.univ.filter fun t : Fin 384 => t.val % 6 = 0) (fun t : Fin 384 =>
          ((V d (cV L) (jV L)).loc cc0_scratch2 ↦[uRowSet ⟨t.val / 6, uDiv_lt t.isLt⟩]{fullShare} FUc m d L xs c : sProp 𝕄)) :=
    bigSep_congr fun t ht => by
      unfold dstRow; rw [if_pos (Finset.mem_filter.mp ht).2]
  have hd : ∀ t ∈ (Finset.univ.filter fun t : Fin 384 => t.val % 6 = 0),
      ∀ t' ∈ (Finset.univ.filter fun t : Fin 384 => t.val % 6 = 0), t ≠ t' →
        Disjoint (uRowSet ⟨t.val / 6, uDiv_lt t.isLt⟩) (uRowSet ⟨t'.val / 6, uDiv_lt t'.isLt⟩) := by
    intro t ht t' ht' hne
    have h1 : t.val % 6 = 0 := (Finset.mem_filter.mp ht).2
    have h2 : t'.val % 6 = 0 := (Finset.mem_filter.mp ht').2
    refine Finset.disjoint_left.mpr fun y hy hy' => hne (Fin.ext ?_)
    rw [mem_uRowSet] at hy hy'
    have e1 : (y 0).val = t.val / 6 := hy
    have e2 : (y 0).val = t'.val / 6 := hy'
    omega
  have hcover : (Finset.univ.filter fun t : Fin 384 => t.val % 6 = 0).biUnion
      (fun t : Fin 384 => uRowSet ⟨t.val / 6, uDiv_lt t.isLt⟩) = Finset.univ := by
    ext y
    simp only [Finset.mem_biUnion, Finset.mem_univ, iff_true]
    have h0 : (y 0).val < 64 := (y 0).isLt
    refine ⟨⟨6 * (y 0).val, by omega⟩, Finset.mem_filter.mpr ⟨Finset.mem_univ _, by show 6 * (y 0).val % 6 = 0; omega⟩, ?_⟩
    rw [mem_uRowSet]
    show (y 0).val = 6 * (y 0).val / 6
    omega
  rw [hcongr]
  have key := pointsTo_biUnion (Ix := HIx 2) (Val := Elt F) (Name := ℕ) (U := UU) (Lvl := ℕ) (ℓ := (V d (cV L) (jV L)).loc cc0_scratch2) (q := fullShare)
    (f := FUc m d L xs c) (Finset.univ.filter fun t : Fin 384 => t.val % 6 = 0)
    (fun t : Fin 384 => (uRowSet ⟨t.val / 6, uDiv_lt t.isLt⟩ : Finset (Idx ((V d (cV L) (jV L)).loc cc0_scratch2)))) hd
  rw [hcover] at key
  exact key.symm

/-- The rows written by the other transfers are the 320 rows of the second buffer, each once. -/
theorem dst_second :
    bigSep (Finset.univ.filter fun t : Fin 384 => ¬ t.val % 6 = 0) (dstRow m d L xs ns c)
      = ((V d (cV L) (jV L)).loc cc0_scratch3 ↦{fullShare} FNc m d L ns c : sProp 𝕄) := by
  have hcongr : bigSep (Finset.univ.filter fun t : Fin 384 => ¬ t.val % 6 = 0) (dstRow m d L xs ns c)
      = bigSep (Finset.univ.filter fun t : Fin 384 => ¬ t.val % 6 = 0) (fun t : Fin 384 =>
          ((V d (cV L) (jV L)).loc cc0_scratch3 ↦[nRowSet ⟨nIdx t.val, nIdx_lt t.isLt⟩]{fullShare} FNc m d L ns c : sProp 𝕄)) :=
    bigSep_congr fun t ht => by
      unfold dstRow; rw [if_neg (Finset.mem_filter.mp ht).2]
  have hd : ∀ t ∈ (Finset.univ.filter fun t : Fin 384 => ¬ t.val % 6 = 0),
      ∀ t' ∈ (Finset.univ.filter fun t : Fin 384 => ¬ t.val % 6 = 0), t ≠ t' →
        Disjoint (nRowSet ⟨nIdx t.val, nIdx_lt t.isLt⟩) (nRowSet ⟨nIdx t'.val, nIdx_lt t'.isLt⟩) := by
    intro t ht t' ht' hne
    have h1 : ¬ t.val % 6 = 0 := (Finset.mem_filter.mp ht).2
    have h2 : ¬ t'.val % 6 = 0 := (Finset.mem_filter.mp ht').2
    refine Finset.disjoint_left.mpr fun y hy hy' => hne (Fin.ext ?_)
    rw [mem_nRowSet] at hy hy'
    have e1 : (y 0).val = nIdx t.val := hy
    have e2 : (y 0).val = nIdx t'.val := hy'
    unfold nIdx at e1 e2
    omega
  have hcover : (Finset.univ.filter fun t : Fin 384 => ¬ t.val % 6 = 0).biUnion
      (fun t : Fin 384 => nRowSet ⟨nIdx t.val, nIdx_lt t.isLt⟩) = Finset.univ := by
    ext y
    simp only [Finset.mem_biUnion, Finset.mem_univ, iff_true]
    have h0 : (y 0).val < 320 := (y 0).isLt
    refine ⟨⟨6 * ((y 0).val / 5) + (y 0).val % 5 + 1, by omega⟩,
      Finset.mem_filter.mpr ⟨Finset.mem_univ _, by show ¬ (6 * ((y 0).val / 5) + (y 0).val % 5 + 1) % 6 = 0; omega⟩, ?_⟩
    rw [mem_nRowSet]
    show (y 0).val = nIdx (6 * ((y 0).val / 5) + (y 0).val % 5 + 1)
    unfold nIdx
    omega
  rw [hcongr]
  have key := pointsTo_biUnion (Ix := HIx 2) (Val := Elt F) (Name := ℕ) (U := UU) (Lvl := ℕ) (ℓ := (V d (cV L) (jV L)).loc cc0_scratch3) (q := fullShare)
    (f := FNc m d L ns c) (Finset.univ.filter fun t : Fin 384 => ¬ t.val % 6 = 0)
    (fun t : Fin 384 => (nRowSet ⟨nIdx t.val, nIdx_lt t.isLt⟩ : Finset (Idx ((V d (cV L) (jV L)).loc cc0_scratch3)))) hd
  rw [hcover] at key
  exact key.symm

/-- THE CHUNK COLLECTED: the 384 deliveries, the rests of the 384 tokens and what was left of the share are the two
    staging buffers whole at their landed contents and the subcore's read share of the table whole. -/
theorem collect :
    iprop(bigSep Finset.univ (DU m d L xs ns c fu fn) ∗ bigSep (Finset.range 384) (restTok m d L xs ns c)
        ∗ (euLoc d ↦{Transfers.shareDrop (qw L) 384} m (euLoc d)))
      ⊢ iprop(((V d (cV L) (jV L)).loc cc0_scratch2 ↦{fullShare} FUc m d L xs c)
        ∗ ((V d (cV L) (jV L)).loc cc0_scratch3 ↦{fullShare} FNc m d L ns c) ∗ (euLoc d ↦{qw L} m (euLoc d))) := by
  have hdst : bigSep Finset.univ (dstRow m d L xs ns c)
      = iprop(((V d (cV L) (jV L)).loc cc0_scratch2 ↦{fullShare} FUc m d L xs c)
          ∗ ((V d (cV L) (jV L)).loc cc0_scratch3 ↦{fullShare} FNc m d L ns c)) :=
    (bigSep_filter_split Finset.univ (fun t : Fin 384 => t.val % 6 = 0)).trans
      (congrArg₂ BI.sep (dst_first m d L xs ns c) (dst_second m d L xs ns c))
  have hsrc : bigSep Finset.univ (fun t : Fin 384 => srcTok m d L xs ns c t.val)
      = bigSep (Finset.range 384) (srcTok m d L xs ns c) :=
    Idealize.ShloMosaic.Ring.bigSep_fin_eq_range 384 (fun t : Fin 384 => srcTok m d L xs ns c t.val) (srcTok m d L xs ns c) (fun _ _ => rfl)
  have hD : bigSep Finset.univ (DU m d L xs ns c fu fn)
      = iprop((((V d (cV L) (jV L)).loc cc0_scratch2 ↦{fullShare} FUc m d L xs c)
          ∗ ((V d (cV L) (jV L)).loc cc0_scratch3 ↦{fullShare} FNc m d L ns c))
          ∗ bigSep (Finset.range 384) (srcTok m d L xs ns c)) :=
    (bigSep_congr (fun t _ => DU_eq m d L xs ns c fu fn t)).trans
      ((bigSep_sep Finset.univ (dstRow m d L xs ns c) (fun t : Fin 384 => srcTok m d L xs ns c t.val)).trans
        (congrArg₂ BI.sep hdst hsrc))
  have hT : iprop(bigSep (Finset.range 384) (srcTok m d L xs ns c) ∗ bigSep (Finset.range 384) (restTok m d L xs ns c))
      = bigSep (Finset.range 384) (fun t => (euLoc d ↦{Transfers.shareTokN (qw L) t} m (euLoc d) : sProp 𝕄)) :=
    (bigSep_sep (Finset.range 384) (srcTok m d L xs ns c) (restTok m d L xs ns c)).symm.trans
      (bigSep_congr fun t _ => srcTok_restTok m d L xs ns c t)
  have hQ : iprop((euLoc d ↦{Transfers.shareDrop (qw L) 384} m (euLoc d))
        ∗ bigSep (Finset.range 384) (fun t => (euLoc d ↦{Transfers.shareTokN (qw L) t} m (euLoc d) : sProp 𝕄)))
      = (euLoc d ↦{qw L} m (euLoc d) : sProp 𝕄) := by
    have h := Transfers.pointsTo_toks_range (Ix := HIx 2) (Val := Elt F) (Name := ℕ) (U := UU) (Lvl := ℕ) (ℓ := euLoc d) (S := Finset.univ) (f := m (euLoc d)) (qw L) 384
    exact (BI.equiv_iff.mp ⟨h.1, h.2⟩).symm
  have hW : iprop((euLoc d ↦{Transfers.shareDrop (qw L) 384} m (euLoc d))
        ∗ bigSep (Finset.range 384) (srcTok m d L xs ns c) ∗ bigSep (Finset.range 384) (restTok m d L xs ns c))
      ⊢ (euLoc d ↦{qw L} m (euLoc d) : sProp 𝕄) := by
    rw [hT, hQ]
  rw [hD]
  iintro ⟨⟨⟨HU, HN⟩, HS⟩, HR, HD⟩
  isplitl [HU]
  · iexact HU
  isplitl [HN]
  · iexact HN
  iapply hW
  isplitl [HD]
  · iexact HD
  isplitl [HS]
  · iexact HS
  iexact HR

end Chunk

end Cert.Proof.TileU

end
-- ==== Proof.TileUOut.lean ====
/-
  The subcore's slice of the copied context rows, cut as the kernel writes it.

  Worker w owns rows [512 w, 512 w + 512) of the 16384 × 64 array of copied rows, all 64 columns. The kernel writes
  them as eight blocks of 64 rows, block k being rows [512 w + 64 k, 512 w + 64 k + 64): the eight blocks are
  pairwise disjoint and cover the slice, so holding the slice is holding the eight blocks. A whole write through
  block k's view leaves, at row y₀ and column y₁ of the array, the written block's entry (y₀ - (512 w + 64 k), y₁).
-/
import proofs.«218857_g62938450756068_cont_9to1c4b_813_41_alg».proof.Proof.TileUDefs

noncomputable section

namespace Cert.Proof.TileU

open Cert.KernelIdeal Cert.KernelIdeal.Gen Cert.Proof.KernelIdealBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- A separating conjunction over eight indices, spelt out. -/
theorem bigSep_fin8 {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) := by
  have hu : (Finset.univ : Finset (Fin 8))
      = insert 0 (insert 1 (insert 2 (insert 3 (insert 4 (insert 5 (insert 6 {7})))))) := by decide
  rw [hu, bigSep_insert (by decide), bigSep_insert (by decide), bigSep_insert (by decide), bigSep_insert (by decide),
    bigSep_insert (by decide), bigSep_insert (by decide), bigSep_insert (by decide), bigSep_singleton]
  rfl

section Out

variable (m : (ℓ : Loc nD τ sig) → Buf (Elt F) ℓ) (d : Dev nD) (L : grid0.Coords)

/-! ## The slice and its eight blocks, by rows -/

/-- Worker w's slice of the copied rows is rows [512 w, 512 w + 512). -/
theorem mem_urowsSlice (w : Fin 32) (y : S16384x64.Idx) :
    y ∈ urowsSlice w ↔ 512 * w.val ≤ (y 0).val ∧ (y 0).val < 512 * w.val + 512 := by
  have h1 : (y 1).val < 64 := (y 1).isLt
  rw [Rect.mem_set_unit]
  constructor
  · intro H
    have a0 : w.val * 512 ≤ (y 0).val ∧ (y 0).val < w.val * 512 + 512 := H 0
    omega
  · intro H a; fin_cases a
    · show w.val * 512 ≤ (y 0).val ∧ (y 0).val < w.val * 512 + 512; omega
    · show 0 * 64 ≤ (y 1).val ∧ (y 1).val < 0 * 64 + 64; omega

/-- Block k, as the program's memref, covers rows [512 w + 64 k, 512 w + 64 k + 64). -/
theorem mem_urowsK (k : Fin 8) (y : S16384x64.Idx) :
    y ∈ (urowsK L k).view.set ↔ 512 * (wL L).val + 64 * k.val ≤ (y 0).val ∧ (y 0).val < 512 * (wL L).val + 64 * k.val + 64 := by
  have e : (urowsK L k).view.set = (urowsRectK L k).set := View.set_slice_whole _ _
  rw [e]; exact mem_urowsRectK L k y

/-- The slice is the eight blocks. -/
theorem urows_split (f : Buf (Elt F) (urowsLoc d)) :
    (urowsLoc d ↦[urowsSlice (wL L)]{fullShare} f : sProp 𝕄)
      = bigSep Finset.univ (fun k : Fin 8 => (urowsLoc d ↦[(urowsRectK L k).set]{fullShare} f : sProp 𝕄)) := by
  have hcover : (Finset.univ : Finset (Fin 8)).biUnion
      (fun k : Fin 8 => ((urowsRectK L k).set : Finset (Idx (urowsLoc d)))) = urowsSlice (wL L) := by
    ext y
    simp only [Finset.mem_biUnion, Finset.mem_univ, true_and]
    rw [mem_urowsSlice]
    constructor
    · rintro ⟨k, hk⟩
      have hk' := (mem_urowsRectK L k y).mp hk
      have := k.isLt
      omega
    · intro h
      refine ⟨⟨((y 0).val - 512 * (wL L).val) / 64, by omega⟩, (mem_urowsRectK L _ y).mpr ?_⟩
      show 512 * (wL L).val + 64 * (((y 0).val - 512 * (wL L).val) / 64) ≤ (y 0).val
        ∧ (y 0).val < 512 * (wL L).val + 64 * (((y 0).val - 512 * (wL L).val) / 64) + 64
      omega
  have hd : ∀ k ∈ (Finset.univ : Finset (Fin 8)), ∀ k' ∈ (Finset.univ : Finset (Fin 8)), k ≠ k' →
      Disjoint ((urowsRectK L k).set : Finset (Idx (urowsLoc d))) ((urowsRectK L k').set : Finset (Idx (urowsLoc d))) := by
    intro k _ k' _ hne
    refine Finset.disjoint_left.mpr fun y hy hy' => hne (Fin.ext ?_)
    have h1 := (mem_urowsRectK L k y).mp hy
    have h2 := (mem_urowsRectK L k' y).mp hy'
    omega
  have key := pointsTo_biUnion (Ix := HIx 2) (Val := Elt F) (Name := ℕ) (U := UU) (Lvl := ℕ) (ℓ := urowsLoc d) (q := fullShare)
    (f := f) Finset.univ (fun k : Fin 8 => ((urowsRectK L k).set : Finset (Idx (urowsLoc d)))) hd
  rw [hcover] at key
  exact key

/-! ## The eight blocks in the program's spelling -/

/-- Block 0 of the subcore's rows, rows [512 w + 0, 512 w + 0 + 64), as the program spells its memref. -/
abbrev blkM0 : Memref sig .scVector .hbm S64x64 .f32 :=
  (Memref.whole main_v1_1_scv : Memref sig .scVector .hbm S16384x64 .f32).slice
    (Rect.unit (s := S16384x64) (k0_off238 L 0#32) S64x64.size (k0_off238_inb L 0)) (fun _ => rfl)
theorem blkM0_eq : blkM0 L = urowsK L 0 := rfl
/-- Block 1 of the subcore's rows, rows [512 w + 64, 512 w + 64 + 64), as the program spells its memref. -/
abbrev blkM1 : Memref sig .scVector .hbm S64x64 .f32 :=
  (Memref.whole main_v1_1_scv : Memref sig .scVector .hbm S16384x64 .f32).slice
    (Rect.unit (s := S16384x64) (k0_off238 L 64#32) S64x64.size (k0_off238_inb L 1)) (fun _ => rfl)
theorem blkM1_eq : blkM1 L = urowsK L 1 := rfl
/-- Block 2 of the subcore's rows, rows [512 w + 128, 512 w + 128 + 64), as the program spells its memref. -/
abbrev blkM2 : Memref sig .scVector .hbm S64x64 .f32 :=
  (Memref.whole main_v1_1_scv : Memref sig .scVector .hbm S16384x64 .f32).slice
    (Rect.unit (s := S16384x64) (k0_off238 L 128#32) S64x64.size (k0_off238_inb L 2)) (fun _ => rfl)
theorem blkM2_eq : blkM2 L = urowsK L 2 := rfl
/-- Block 3 of the subcore's rows, rows [512 w + 192, 512 w + 192 + 64), as the program spells its memref. -/
abbrev blkM3 : Memref sig .scVector .hbm S64x64 .f32 :=
  (Memref.whole main_v1_1_scv : Memref sig .scVector .hbm S16384x64 .f32).slice
    (Rect.unit (s := S16384x64) (k0_off238 L 192#32) S64x64.size (k0_off238_inb L 3)) (fun _ => rfl)
theorem blkM3_eq : blkM3 L = urowsK L 3 := rfl
/-- Block 4 of the subcore's rows, rows [512 w + 256, 512 w + 256 + 64), as the program spells its memref. -/
abbrev blkM4 : Memref sig .scVector .hbm S64x64 .f32 :=
  (Memref.whole main_v1_1_scv : Memref sig .scVector .hbm S16384x64 .f32).slice
    (Rect.unit (s := S16384x64) (k0_off238 L 256#32) S64x64.size (k0_off238_inb L 4)) (fun _ => rfl)
theorem blkM4_eq : blkM4 L = urowsK L 4 := rfl
/-- Block 5 of the subcore's rows, rows [512 w + 320, 512 w + 320 + 64), as the program spells its memref. -/
abbrev blkM5 : Memref sig .scVector .hbm S64x64 .f32 :=
  (Memref.whole main_v1_1_scv : Memref sig .scVector .hbm S16384x64 .f32).slice
    (Rect.unit (s := S16384x64) (k0_off238 L 320#32) S64x64.size (k0_off238_inb L 5)) (fun _ => rfl)
theorem blkM5_eq : blkM5 L = urowsK L 5 := rfl
/-- Block 6 of the subcore's rows, rows [512 w + 384, 512 w + 384 + 64), as the program spells its memref. -/
abbrev blkM6 : Memref sig .scVector .hbm S64x64 .f32 :=
  (Memref.whole main_v1_1_scv : Memref sig .scVector .hbm S16384x64 .f32).slice
    (Rect.unit (s := S16384x64) (k0_off238 L 384#32) S64x64.size (k0_off238_inb L 6)) (fun _ => rfl)
theorem blkM6_eq : blkM6 L = urowsK L 6 := rfl
/-- Block 7 of the subcore's rows, rows [512 w + 448, 512 w + 448 + 64), as the program spells its memref. -/
abbrev blkM7 : Memref sig .scVector .hbm S64x64 .f32 :=
  (Memref.whole main_v1_1_scv : Memref sig .scVector .hbm S16384x64 .f32).slice
    (Rect.unit (s := S16384x64) (k0_off238 L 448#32) S64x64.size (k0_off238_inb L 7)) (fun _ => rfl)
theorem blkM7_eq : blkM7 L = urowsK L 7 := rfl

theorem set_blkM0 : (blkM0 L).view.set = (urowsRectK L 0).set := View.set_slice_whole _ _
theorem set_blkM1 : (blkM1 L).view.set = (urowsRectK L 1).set := View.set_slice_whole _ _
theorem set_blkM2 : (blkM2 L).view.set = (urowsRectK L 2).set := View.set_slice_whole _ _
theorem set_blkM3 : (blkM3 L).view.set = (urowsRectK L 3).set := View.set_slice_whole _ _
theorem set_blkM4 : (blkM4 L).view.set = (urowsRectK L 4).set := View.set_slice_whole _ _
theorem set_blkM5 : (blkM5 L).view.set = (urowsRectK L 5).set := View.set_slice_whole _ _
theorem set_blkM6 : (blkM6 L).view.set = (urowsRectK L 6).set := View.set_slice_whole _ _
theorem set_blkM7 : (blkM7 L).view.set = (urowsRectK L 7).set := View.set_slice_whole _ _

/-- THE SLICE AS THE EIGHT BLOCKS, each held through the program's own memref. -/
theorem urows_blocks (f : Buf (Elt F) (urowsLoc d)) :
    (urowsLoc d ↦[urowsSlice (wL L)]{fullShare} f : sProp 𝕄)
      = iprop(((blkM0 L).view.loc (V d (cV L) (jV L)) ↦[(blkM0 L).view.set]{fullShare} f)
        ∗ ((blkM1 L).view.loc (V d (cV L) (jV L)) ↦[(blkM1 L).view.set]{fullShare} f)
        ∗ ((blkM2 L).view.loc (V d (cV L) (jV L)) ↦[(blkM2 L).view.set]{fullShare} f)
        ∗ ((blkM3 L).view.loc (V d (cV L) (jV L)) ↦[(blkM3 L).view.set]{fullShare} f)
        ∗ ((blkM4 L).view.loc (V d (cV L) (jV L)) ↦[(blkM4 L).view.set]{fullShare} f)
        ∗ ((blkM5 L).view.loc (V d (cV L) (jV L)) ↦[(blkM5 L).view.set]{fullShare} f)
        ∗ ((blkM6 L).view.loc (V d (cV L) (jV L)) ↦[(blkM6 L).view.set]{fullShare} f)
        ∗ ((blkM7 L).view.loc (V d (cV L) (jV L)) ↦[(blkM7 L).view.set]{fullShare} f)) := by
  rw [urows_split, bigSep_fin8, set_blkM0, set_blkM1, set_blkM2, set_blkM3, set_blkM4, set_blkM5, set_blkM6, set_blkM7]

theorem mem_blk0 (y : S16384x64.Idx) :
    y ∈ (blkM0 L).view.set ↔ 512 * (wL L).val + 64 * 0 ≤ (y 0).val ∧ (y 0).val < 512 * (wL L).val + 64 * 0 + 64 :=
  mem_urowsK L 0 y
theorem mem_blk1 (y : S16384x64.Idx) :
    y ∈ (blkM1 L).view.set ↔ 512 * (wL L).val + 64 * 1 ≤ (y 0).val ∧ (y 0).val < 512 * (wL L).val + 64 * 1 + 64 :=
  mem_urowsK L 1 y
theorem mem_blk2 (y : S16384x64.Idx) :
    y ∈ (blkM2 L).view.set ↔ 512 * (wL L).val + 64 * 2 ≤ (y 0).val ∧ (y 0).val < 512 * (wL L).val + 64 * 2 + 64 :=
  mem_urowsK L 2 y
theorem mem_blk3 (y : S16384x64.Idx) :
    y ∈ (blkM3 L).view.set ↔ 512 * (wL L).val + 64 * 3 ≤ (y 0).val ∧ (y 0).val < 512 * (wL L).val + 64 * 3 + 64 :=
  mem_urowsK L 3 y
theorem mem_blk4 (y : S16384x64.Idx) :
    y ∈ (blkM4 L).view.set ↔ 512 * (wL L).val + 64 * 4 ≤ (y 0).val ∧ (y 0).val < 512 * (wL L).val + 64 * 4 + 64 :=
  mem_urowsK L 4 y
theorem mem_blk5 (y : S16384x64.Idx) :
    y ∈ (blkM5 L).view.set ↔ 512 * (wL L).val + 64 * 5 ≤ (y 0).val ∧ (y 0).val < 512 * (wL L).val + 64 * 5 + 64 :=
  mem_urowsK L 5 y
theorem mem_blk6 (y : S16384x64.Idx) :
    y ∈ (blkM6 L).view.set ↔ 512 * (wL L).val + 64 * 6 ≤ (y 0).val ∧ (y 0).val < 512 * (wL L).val + 64 * 6 + 64 :=
  mem_urowsK L 6 y
theorem mem_blk7 (y : S16384x64.Idx) :
    y ∈ (blkM7 L).view.set ↔ 512 * (wL L).val + 64 * 7 ≤ (y 0).val ∧ (y 0).val < 512 * (wL L).val + 64 * 7 + 64 :=
  mem_urowsK L 7 y

/-! ## A block's contents: changing them off the block, and writing the block whole -/

theorem urowsK_congr (k : Fin 8) (f g : Buf (Elt F) (urowsLoc d))
    (h : ∀ y : S16384x64.Idx, 512 * (wL L).val + 64 * k.val ≤ (y 0).val → (y 0).val < 512 * (wL L).val + 64 * k.val + 64 → f y = g y) :
    ((urowsK L k).view.loc (V d (cV L) (jV L)) ↦[(urowsK L k).view.set]{fullShare} f : sProp 𝕄)
      = ((urowsK L k).view.loc (V d (cV L) (jV L)) ↦[(urowsK L k).view.set]{fullShare} g) :=
  pointsTo_congr fun y hy => h y ((mem_urowsK L k y).mp hy).1 ((mem_urowsK L k y).mp hy).2

theorem blk_congr0 (f g : Buf (Elt F) (urowsLoc d))
    (h : ∀ y : S16384x64.Idx, 512 * (wL L).val + 64 * 0 ≤ (y 0).val → (y 0).val < 512 * (wL L).val + 64 * 0 + 64 → f y = g y) :
    ((blkM0 L).view.loc (V d (cV L) (jV L)) ↦[(blkM0 L).view.set]{fullShare} f : sProp 𝕄)
      = ((blkM0 L).view.loc (V d (cV L) (jV L)) ↦[(blkM0 L).view.set]{fullShare} g) :=
  urowsK_congr d L 0 f g h
theorem blk_congr1 (f g : Buf (Elt F) (urowsLoc d))
    (h : ∀ y : S16384x64.Idx, 512 * (wL L).val + 64 * 1 ≤ (y 0).val → (y 0).val < 512 * (wL L).val + 64 * 1 + 64 → f y = g y) :
    ((blkM1 L).view.loc (V d (cV L) (jV L)) ↦[(blkM1 L).view.set]{fullShare} f : sProp 𝕄)
      = ((blkM1 L).view.loc (V d (cV L) (jV L)) ↦[(blkM1 L).view.set]{fullShare} g) :=
  urowsK_congr d L 1 f g h
theorem blk_congr2 (f g : Buf (Elt F) (urowsLoc d))
    (h : ∀ y : S16384x64.Idx, 512 * (wL L).val + 64 * 2 ≤ (y 0).val → (y 0).val < 512 * (wL L).val + 64 * 2 + 64 → f y = g y) :
    ((blkM2 L).view.loc (V d (cV L) (jV L)) ↦[(blkM2 L).view.set]{fullShare} f : sProp 𝕄)
      = ((blkM2 L).view.loc (V d (cV L) (jV L)) ↦[(blkM2 L).view.set]{fullShare} g) :=
  urowsK_congr d L 2 f g h
theorem blk_congr3 (f g : Buf (Elt F) (urowsLoc d))
    (h : ∀ y : S16384x64.Idx, 512 * (wL L).val + 64 * 3 ≤ (y 0).val → (y 0).val < 512 * (wL L).val + 64 * 3 + 64 → f y = g y) :
    ((blkM3 L).view.loc (V d (cV L) (jV L)) ↦[(blkM3 L).view.set]{fullShare} f : sProp 𝕄)
      = ((blkM3 L).view.loc (V d (cV L) (jV L)) ↦[(blkM3 L).view.set]{fullShare} g) :=
  urowsK_congr d L 3 f g h
theorem blk_congr4 (f g : Buf (Elt F) (urowsLoc d))
    (h : ∀ y : S16384x64.Idx, 512 * (wL L).val + 64 * 4 ≤ (y 0).val → (y 0).val < 512 * (wL L).val + 64 * 4 + 64 → f y = g y) :
    ((blkM4 L).view.loc (V d (cV L) (jV L)) ↦[(blkM4 L).view.set]{fullShare} f : sProp 𝕄)
      = ((blkM4 L).view.loc (V d (cV L) (jV L)) ↦[(blkM4 L).view.set]{fullShare} g) :=
  urowsK_congr d L 4 f g h
theorem blk_congr5 (f g : Buf (Elt F) (urowsLoc d))
    (h : ∀ y : S16384x64.Idx, 512 * (wL L).val + 64 * 5 ≤ (y 0).val → (y 0).val < 512 * (wL L).val + 64 * 5 + 64 → f y = g y) :
    ((blkM5 L).view.loc (V d (cV L) (jV L)) ↦[(blkM5 L).view.set]{fullShare} f : sProp 𝕄)
      = ((blkM5 L).view.loc (V d (cV L) (jV L)) ↦[(blkM5 L).view.set]{fullShare} g) :=
  urowsK_congr d L 5 f g h
theorem blk_congr6 (f g : Buf (Elt F) (urowsLoc d))
    (h : ∀ y : S16384x64.Idx, 512 * (wL L).val + 64 * 6 ≤ (y 0).val → (y 0).val < 512 * (wL L).val + 64 * 6 + 64 → f y = g y) :
    ((blkM6 L).view.loc (V d (cV L) (jV L)) ↦[(blkM6 L).view.set]{fullShare} f : sProp 𝕄)
      = ((blkM6 L).view.loc (V d (cV L) (jV L)) ↦[(blkM6 L).view.set]{fullShare} g) :=
  urowsK_congr d L 6 f g h
theorem blk_congr7 (f g : Buf (Elt F) (urowsLoc d))
    (h : ∀ y : S16384x64.Idx, 512 * (wL L).val + 64 * 7 ≤ (y 0).val → (y 0).val < 512 * (wL L).val + 64 * 7 + 64 → f y = g y) :
    ((blkM7 L).view.loc (V d (cV L) (jV L)) ↦[(blkM7 L).view.set]{fullShare} f : sProp 𝕄)
      = ((blkM7 L).view.loc (V d (cV L) (jV L)) ↦[(blkM7 L).view.set]{fullShare} g) :=
  urowsK_congr d L 7 f g h

theorem urowsK_row_lt (k : Fin 8) {y : S16384x64.Idx} (hy : y ∈ (urowsK L k).view.set) :
    (y 0).val - (512 * (wL L).val + 64 * k.val) < 64 := by
  have := (mem_urowsK L k y).mp hy
  omega

/-- What a whole write through block k's view leaves at an index of the block. -/
theorem urowsK_write (k : Fin 8) (f : Buf (Elt F) (urowsLoc d)) (P : S64x64.Idx → F .f32) (y : S16384x64.Idx)
    (hy : y ∈ (urowsK L k).view.set) :
    (urowsK L k).view.write (Elt F) f P Finset.univ y
      = P (ix2 ⟨(y 0).val - (512 * (wL L).val + 64 * k.val), urowsK_row_lt L k hy⟩ (y 1)) := by
  obtain ⟨x, -, rfl⟩ := Finset.mem_map.mp hy
  have hoff := k0_off238_eq L k
  have e0 : (((urowsK L k).view.emb x) 0).val = (1024 * (L 1).val + 512 * (L 0).val + 64 * k.val) + 1 * (x 0).val := by
    show (k0_off238 L (BitVec.ofNat 32 (64 * k.val))) 0 + 1 * (x 0).val = _
    rw [hoff]; rfl
  have e1 : (((urowsK L k).view.emb x) 1).val = 0 + 1 * (x 1).val := by
    show (k0_off238 L (BitVec.ofNat 32 (64 * k.val))) 1 + 1 * (x 1).val = _
    rw [hoff]; rfl
  have hx : (ix2 ⟨(((urowsK L k).view.emb x) 0).val - (512 * (wL L).val + 64 * k.val), urowsK_row_lt L k hy⟩
      (((urowsK L k).view.emb x) 1) : S64x64.Idx) = x := by
    funext a; refine Fin.ext ?_
    have hw := wL_val L
    match a with
    | ⟨0, _⟩ =>
      show (((urowsK L k).view.emb x) 0).val - (512 * (wL L).val + 64 * k.val) = (x 0).val
      omega
    | ⟨1, _⟩ =>
      show (((urowsK L k).view.emb x) 1).val = (x 1).val
      omega
  refine (View.write_emb_of_mem (v := (urowsK L k).view) (Val := Elt F) f P (Finset.mem_univ x)).trans ?_
  refine Eq.trans (b := P x) (cast_eq _ _) ?_
  exact congrArg P hx.symm

theorem blk_row_lt0 {y : S16384x64.Idx} (hy : y ∈ (blkM0 L).view.set) :
    (y 0).val - (512 * (wL L).val + 64 * 0) < 64 := urowsK_row_lt L 0 hy
theorem blk_write0 (f : Buf (Elt F) (urowsLoc d)) (P : S64x64.Idx → F .f32) (y : S16384x64.Idx)
    (hy : y ∈ (blkM0 L).view.set) :
    (blkM0 L).view.write (Elt F) f P Finset.univ y
      = P (ix2 ⟨(y 0).val - (512 * (wL L).val + 64 * 0), blk_row_lt0 L hy⟩ (y 1)) :=
  urowsK_write d L 0 f P y hy
theorem blk_row_lt1 {y : S16384x64.Idx} (hy : y ∈ (blkM1 L).view.set) :
    (y 0).val - (512 * (wL L).val + 64 * 1) < 64 := urowsK_row_lt L 1 hy
theorem blk_write1 (f : Buf (Elt F) (urowsLoc d)) (P : S64x64.Idx → F .f32) (y : S16384x64.Idx)
    (hy : y ∈ (blkM1 L).view.set) :
    (blkM1 L).view.write (Elt F) f P Finset.univ y
      = P (ix2 ⟨(y 0).val - (512 * (wL L).val + 64 * 1), blk_row_lt1 L hy⟩ (y 1)) :=
  urowsK_write d L 1 f P y hy
theorem blk_row_lt2 {y : S16384x64.Idx} (hy : y ∈ (blkM2 L).view.set) :
    (y 0).val - (512 * (wL L).val + 64 * 2) < 64 := urowsK_row_lt L 2 hy
theorem blk_write2 (f : Buf (Elt F) (urowsLoc d)) (P : S64x64.Idx → F .f32) (y : S16384x64.Idx)
    (hy : y ∈ (blkM2 L).view.set) :
    (blkM2 L).view.write (Elt F) f P Finset.univ y
      = P (ix2 ⟨(y 0).val - (512 * (wL L).val + 64 * 2), blk_row_lt2 L hy⟩ (y 1)) :=
  urowsK_write d L 2 f P y hy
theorem blk_row_lt3 {y : S16384x64.Idx} (hy : y ∈ (blkM3 L).view.set) :
    (y 0).val - (512 * (wL L).val + 64 * 3) < 64 := urowsK_row_lt L 3 hy
theorem blk_write3 (f : Buf (Elt F) (urowsLoc d)) (P : S64x64.Idx → F .f32) (y : S16384x64.Idx)
    (hy : y ∈ (blkM3 L).view.set) :
    (blkM3 L).view.write (Elt F) f P Finset.univ y
      = P (ix2 ⟨(y 0).val - (512 * (wL L).val + 64 * 3), blk_row_lt3 L hy⟩ (y 1)) :=
  urowsK_write d L 3 f P y hy
theorem blk_row_lt4 {y : S16384x64.Idx} (hy : y ∈ (blkM4 L).view.set) :
    (y 0).val - (512 * (wL L).val + 64 * 4) < 64 := urowsK_row_lt L 4 hy
theorem blk_write4 (f : Buf (Elt F) (urowsLoc d)) (P : S64x64.Idx → F .f32) (y : S16384x64.Idx)
    (hy : y ∈ (blkM4 L).view.set) :
    (blkM4 L).view.write (Elt F) f P Finset.univ y
      = P (ix2 ⟨(y 0).val - (512 * (wL L).val + 64 * 4), blk_row_lt4 L hy⟩ (y 1)) :=
  urowsK_write d L 4 f P y hy
theorem blk_row_lt5 {y : S16384x64.Idx} (hy : y ∈ (blkM5 L).view.set) :
    (y 0).val - (512 * (wL L).val + 64 * 5) < 64 := urowsK_row_lt L 5 hy
theorem blk_write5 (f : Buf (Elt F) (urowsLoc d)) (P : S64x64.Idx → F .f32) (y : S16384x64.Idx)
    (hy : y ∈ (blkM5 L).view.set) :
    (blkM5 L).view.write (Elt F) f P Finset.univ y
      = P (ix2 ⟨(y 0).val - (512 * (wL L).val + 64 * 5), blk_row_lt5 L hy⟩ (y 1)) :=
  urowsK_write d L 5 f P y hy
theorem blk_row_lt6 {y : S16384x64.Idx} (hy : y ∈ (blkM6 L).view.set) :
    (y 0).val - (512 * (wL L).val + 64 * 6) < 64 := urowsK_row_lt L 6 hy
theorem blk_write6 (f : Buf (Elt F) (urowsLoc d)) (P : S64x64.Idx → F .f32) (y : S16384x64.Idx)
    (hy : y ∈ (blkM6 L).view.set) :
    (blkM6 L).view.write (Elt F) f P Finset.univ y
      = P (ix2 ⟨(y 0).val - (512 * (wL L).val + 64 * 6), blk_row_lt6 L hy⟩ (y 1)) :=
  urowsK_write d L 6 f P y hy
theorem blk_row_lt7 {y : S16384x64.Idx} (hy : y ∈ (blkM7 L).view.set) :
    (y 0).val - (512 * (wL L).val + 64 * 7) < 64 := urowsK_row_lt L 7 hy
theorem blk_write7 (f : Buf (Elt F) (urowsLoc d)) (P : S64x64.Idx → F .f32) (y : S16384x64.Idx)
    (hy : y ∈ (blkM7 L).view.set) :
    (blkM7 L).view.write (Elt F) f P Finset.univ y
      = P (ix2 ⟨(y 0).val - (512 * (wL L).val + 64 * 7), blk_row_lt7 L hy⟩ (y 1)) :=
  urowsK_write d L 7 f P y hy

end Out

end Cert.Proof.TileU

end
-- ==== Proof.TileUPneg.lean ====
/-
  The copy-out of the subcore's 40960 partial products.

  Worker w owns entries [40960 w, 40960 w + 40960) of the flat array of 1310720 partial products. A whole write of
  a 40960-entry vector P through the view of that slice leaves P p at entry 40960 w + p; so if P p is the partial
  product the specification puts at entry 40960 w + p, the slice afterwards holds the specified partial products.
-/
import proofs.«218857_g62938450756068_cont_9to1c4b_813_41_alg».proof.Proof.TileUDefs

noncomputable section

namespace Cert.Proof.TileU

open Cert.KernelIdeal Cert.KernelIdeal.Gen Cert.Proof.KernelIdealBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

section Pneg

variable (m : (ℓ : Loc nD τ sig) → Buf (Elt F) ℓ) (d : Dev nD) (L : grid0.Coords)

/-- Entry p of worker w's slice is entry 40960 w + p of the flat array. -/
theorem part_inb' (p : S40960.Idx) : 40960 * (wL L).val + (p 0).val < 1310720 := by
  have h : (p 0).val < 40960 := (p 0).isLt
  have hw : (wL L).val < 32 := (wL L).isLt
  omega

/-- Entry x of the slice's view sits at entry 40960 w + x of the flat array. -/
theorem pnegK_emb (x : S40960.Idx) :
    (((pnegK L).view.emb x) 0).val = 40960 * (wL L).val + (x 0).val := by
  have hoff := k0_off1884_eq L
  have hw := wL_val L
  have e0 : (((pnegK L).view.emb x) 0).val = (k0_off1884 L) 0 + 1 * (x 0).val := rfl
  rw [e0, hoff]
  show 81920 * (L 1).val + 40960 * (L 0).val + 1 * (x 0).val = _
  omega

/-- THE COPY-OUT LANDED: the slice after the whole write of the specified partial products holds them. -/
theorem pneg_landed (fp : Buf (Elt F) (pnegLoc d)) (P : S40960.Idx → F .f32)
    (hP : ∀ p : S40960.Idx, P p = pnegF m d (ix1 ⟨40960 * (wL L).val + (p 0).val, part_inb' L p⟩)) :
    (((pnegK L).view.loc (V d (cV L) (jV L)) ↦[(pnegK L).view.set]{fullShare}
        View.write (Elt F) (pnegK L).view fp P Finset.univ : sProp 𝕄))
      = (pnegLoc d ↦[pnegSlice (wL L)]{fullShare} pnegF m d) := by
  have hcongr : ∀ y ∈ (pnegK L).view.set,
      View.write (Elt F) (pnegK L).view fp P Finset.univ y = pnegF m d y := by
    intro y hy
    obtain ⟨x, -, rfl⟩ := Finset.mem_map.mp hy
    refine (View.write_emb_of_mem (v := (pnegK L).view) (Val := Elt F) fp P (Finset.mem_univ x)).trans ?_
    refine Eq.trans (b := P x) (cast_eq _ _) ?_
    rw [hP x]
    refine congrArg (pnegF m d) ?_
    funext a; refine Fin.ext ?_
    match a with
    | ⟨0, _⟩ => exact (pnegK_emb L x).symm
  refine (pointsTo_congr hcongr).trans ?_
  show (pnegLoc d ↦[(pnegK L).view.set]{fullShare} pnegF m d : sProp 𝕄) = _
  rw [set_pnegK]

end Pneg

end Cert.Proof.TileU

end
-- ==== Proof.TileUWords.lean ====
/-
  The subcore's index words: what the kernel's first two copies bring into its scratch, and the subcore's own
  buffers spelt as the kernel's memrefs address them.
-/
import proofs.«218857_g62938450756068_cont_9to1c4b_813_41_alg».proof.Proof.TileUScratch

noncomputable section

namespace Cert.Proof.TileU

open Cert.KernelIdeal Cert.KernelIdeal.Gen Cert.Proof.KernelIdealBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)

theorem pts_ctxK (f : Buf (Elt F) (ctxLoc d)) :
    ((ctxK L).view.loc (V d (cV L) (jV L)) ↦[(ctxK L).view.set]{fullShare} f : sProp 𝕄) = (ctxLoc d ↦[ctxSlice (wL L)]{fullShare} f) := by
  rw [set_ctxK]
theorem pts_negK (f : Buf (Elt F) (negFlatLoc d)) :
    ((negK L).view.loc (V d (cV L) (jV L)) ↦[(negK L).view.set]{fullShare} f : sProp 𝕄) = (negFlatLoc d ↦[negSlice (wL L)]{fullShare} f) := by
  rw [set_negK]

/-- The subcore's buffers, the five scratch buffers spelt as the kernel's memrefs address them. -/
theorem ownBufs_V' (c : Fin τ.nSC) (i : Fin τ.nSub) :
    (SparseCore.Cfg.ownBufs (V d c i) : sProp 𝕄)
      = iprop(((∃ f, (Memref.whole cc0_scratch0 : Memref sig .scVector .vmem S512 .i32).view.loc (V d c i) ↦{fullShare} f)
          ∗ (∃ f, (Memref.whole cc0_scratch1 : Memref sig .scVector .vmem S2560 .i32).view.loc (V d c i) ↦{fullShare} f)
          ∗ (∃ f, (Memref.whole cc0_scratch2 : Memref sig .scVector .vmem S64x64 .f32).view.loc (V d c i) ↦{fullShare} f)
          ∗ (∃ f, (Memref.whole cc0_scratch3 : Memref sig .scVector .vmem S320x64 .f32).view.loc (V d c i) ↦{fullShare} f)
          ∗ (∃ f, (Memref.whole cc0_scratch4 : Memref sig .scVector .vmem S40960 .f32).view.loc (V d c i) ↦{fullShare} f))
          ∗ bigSep (SparseCore.Cfg.ownRefs (τ := τ) (sig := sig) (.scVector c i) \ bufsU.map (refOf c i)) fun b => iprop(∃ f, ((d, b) : Loc nD τ sig) ↦{fullShare} f)) := by
  rw [ownBufs_V, bigSep_bufsU]

/-! ## The index words the two first copies bring in -/

theorem read_ctxK (f : Buf (Elt F) (ctxLoc d)) (j : S512.Idx) (hj : 512 * (wL L).val + (j 0).val < 16384) :
    (ctxK L).view.read (Elt F) f j = (f : S16384.Idx → BitVec 32) (ix1 ⟨512 * (wL L).val + (j 0).val, hj⟩) := by
  rw [View.read_apply]
  show (f : S16384.Idx → BitVec 32) ((ctxRectK L).emb j) = _
  congr 1; funext a
  match a with
  | ⟨0, _⟩ =>
    apply Fin.ext
    show (k0_off1 L) 0 + 1 * (j 0).val = 512 * (wL L).val + (j 0).val
    rw [k0_off1_eq, wL_val]; simp only [Matrix.cons_val_zero]; omega
theorem read_negK (f : Buf (Elt F) (negFlatLoc d)) (j : S2560.Idx) (hj : 2560 * (wL L).val + (j 0).val < 81920) :
    (negK L).view.read (Elt F) f j = (f : S81920.Idx → BitVec 32) (ix1 ⟨2560 * (wL L).val + (j 0).val, hj⟩) := by
  rw [View.read_apply]
  show (f : S81920.Idx → BitVec 32) ((negRectK L).emb j) = _
  congr 1; funext a
  match a with
  | ⟨0, _⟩ =>
    apply Fin.ext
    show (k0_off2 L) 0 + 1 * (j 0).val = 2560 * (wL L).val + (j 0).val
    rw [k0_off2_eq, wL_val]; simp only [Matrix.cons_val_zero]; omega

theorem ctx_inb (j : S512.Idx) : 512 * (wL L).val + (j 0).val < 16384 := by
  have h1 : (j 0).val < 512 := (j 0).isLt
  have h2 := (wL L).isLt; omega
theorem neg_inb (j : S2560.Idx) : 2560 * (wL L).val + (j 0).val < 81920 := by
  have h1 : (j 0).val < 2560 := (j 0).isLt
  have h2 := (wL L).isLt; omega

/-- What the subcore's 512 context words are; its 2560 negative words. -/
def XsOK (xs : S512.Idx → BitVec 32) : Prop :=
  ∀ j : S512.Idx, xs j = (m (ctxLoc d) : S16384.Idx → BitVec 32) (ix1 ⟨512 * (wL L).val + (j 0).val, ctx_inb L j⟩)
def NsOK (NF : Buf (Elt F) (negFlatLoc d)) (ns : S2560.Idx → BitVec 32) : Prop :=
  ∀ j : S2560.Idx, ns j = (NF : S81920.Idx → BitVec 32) (ix1 ⟨2560 * (wL L).val + (j 0).val, neg_inb L j⟩)

theorem name_xs (P : S512.Idx → BitVec 32) (f0 : Buf (Elt F) ((V d (cV L) (jV L)).loc cc0_scratch0)) (hP : XsOK m d L P) :
    ((Memref.whole cc0_scratch0 : Memref sig .scVector .vmem S512 .i32).view.loc (V d (cV L) (jV L)) ↦{fullShare}
        View.write (Elt F) (Memref.whole cc0_scratch0 : Memref sig .scVector .vmem S512 .i32).view f0 P Finset.univ : sProp 𝕄)
      ⊢ iprop(∃ xs : S512.Idx → BitVec 32, ⌜XsOK m d L xs⌝ ∗ ((V d (cV L) (jV L)).loc cc0_scratch0 ↦{fullShare} xs)) := by
  rw [View.write_whole_univ]
  iintro H; iexists P; isplitr; · ipureintro; exact hP
  iexact H
theorem name_ns (NF : Buf (Elt F) (negFlatLoc d)) (P : S2560.Idx → BitVec 32) (f1 : Buf (Elt F) ((V d (cV L) (jV L)).loc cc0_scratch1)) (hP : NsOK d L NF P) :
    ((Memref.whole cc0_scratch1 : Memref sig .scVector .vmem S2560 .i32).view.loc (V d (cV L) (jV L)) ↦{fullShare}
        View.write (Elt F) (Memref.whole cc0_scratch1 : Memref sig .scVector .vmem S2560 .i32).view f1 P Finset.univ : sProp 𝕄)
      ⊢ iprop(∃ ns : S2560.Idx → BitVec 32, ⌜NsOK d L NF ns⌝ ∗ ((V d (cV L) (jV L)).loc cc0_scratch1 ↦{fullShare} ns)) := by
  rw [View.write_whole_univ]
  iintro H; iexists P; isplitr; · ipureintro; exact hP
  iexact H

theorem xs_lt (hpre : PreOKU m) (xs : S512.Idx → BitVec 32) (hx : XsOK m d L xs) : ∀ j, (xs j).toNat < 1000000 := by
  intro j; rw [hx j]; exact (hpre d).1 _
theorem ns_lt (hpre : PreOKU m) (NF : Buf (Elt F) (negFlatLoc d)) (hNF : IsFlat m d NF) (ns : S2560.Idx → BitVec 32) (hn : NsOK d L NF ns) :
    ∀ j, (ns j).toNat < 1000000 := by
  intro j; rw [hn j]
  have h1 : (j 0).val < 2560 := (j 0).isLt
  have h2 := (wL L).isLt
  have e := hNF ⟨(2560 * (wL L).val + (j 0).val) / 5, by omega⟩ ⟨(2560 * (wL L).val + (j 0).val) % 5, Nat.mod_lt _ (by decide)⟩
  have e2 : (ix1 (⟨5 * ((2560 * (wL L).val + (j 0).val) / 5) + (2560 * (wL L).val + (j 0).val) % 5, by omega⟩ : Fin 81920) : S81920.Idx)
      = ix1 ⟨2560 * (wL L).val + (j 0).val, neg_inb L j⟩ := congrArg ix1 (Fin.ext (Nat.div_add_mod _ 5))
  rw [← e2, e]; exact (hpre d).2 _ _

end Cert.Proof.TileU

end
-- ==== Proof.TileUGlue.lean ====
/-
  Small glue for the body's assembly: the recorded waits carried as "some set of waits, all at no index beyond those
  the thread started with", and the subcore's slice of the partial products spelt as the kernel slices it.
-/
import proofs.«218857_g62938450756068_cont_9to1c4b_813_41_alg».proof.Proof.TileUDrain
import proofs.«218857_g62938450756068_cont_9to1c4b_813_41_alg».proof.Proof.TileUWords

noncomputable section

namespace Cert.Proof.TileU

open Cert.KernelIdeal Cert.KernelIdeal.Gen Cert.Proof.KernelIdealBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (O : CellTallies nD τ sig (HIx 2)) (W : Waits sig (HIx 2))

/-- The waits recorded so far, forgotten but for what the thread's obligation asks of them. -/
theorem owes_pack (Wc : Waits sig (HIx 2)) (hW : ∀ p ∈ Wc, p ∈ W ∨ p.2 = none) :
    (owes (V d (cV L) (jV L)) O Wc : sProp 𝕄) ⊢ owesSt (F := F) d L O W := by
  unfold owesSt
  iintro HO; iexists Wc; isplitr; · ipureintro; exact hW
  iexact HO

/-- A wait recorded at no index keeps the fact. -/
theorem hW_ins (Wc : Waits sig (HIx 2)) (hW : ∀ p ∈ Wc, p ∈ W ∨ p.2 = none) (sm : SemLoc sig) :
    ∀ p ∈ insert (sm, (none : HIx 2)) Wc, p ∈ W ∨ p.2 = none := by
  intro p hp
  rcases Finset.mem_insert.mp hp with rfl | hp
  · exact .inr rfl
  · exact hW p hp

theorem pts_pnegK (f : Buf (Elt F) (pnegLoc d)) :
    ((pnegK L).view.loc (V d (cV L) (jV L)) ↦[(pnegK L).view.set]{fullShare} f : sProp 𝕄) = (pnegLoc d ↦[pnegSlice (wL L)]{fullShare} f) := by
  rw [set_pnegK]

end Cert.Proof.TileU

end
-- ==== Proof.TileUValue.lean ====
/-
  What the landed staging rows are in terms of the launch memory: the context rows' copy.
-/
import proofs.«218857_g62938450756068_cont_9to1c4b_813_41_alg».proof.Proof.TileUWords
import proofs.«218857_g62938450756068_cont_9to1c4b_813_41_alg».proof.Proof.TileULanded

noncomputable section

namespace Cert.Proof.TileU

open Cert.KernelIdeal Cert.KernelIdeal.Gen Cert.Proof.KernelIdealBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)

theorem chunk_inb (c : Fin 8) (e : Fin 64) : 512 * (wL L).val + (64 * c.val + e.val) < 16384 := by
  have h2 := (wL L).isLt; have := c.isLt; have := e.isLt; omega

/-- The chunk's e-th context word names the table row of batch element 512 w + 64 c + e. -/
theorem xrow_ctxRow (hx : XsOK m d L xs) (c : Fin 8) (e : Fin 64) :
    xrow xs c e.val = ctxRow m d ⟨512 * (wL L).val + (64 * c.val + e.val), chunk_inb L c e⟩ := by
  have h1 : 64 * c.val + e.val < 512 := by have := c.isLt; have := e.isLt; omega
  apply Fin.ext
  unfold xrow ctxRow
  simp only [h1, ↓reduceDIte]
  rw [hx]

/-- The landed staging rows of chunk c are rows 512 w + 64 c … of the copied context rows. -/
theorem FUc_urowsF (hx : XsOK m d L xs) (c : Fin 8) (y : S64x64.Idx) :
    FUc m d L xs c y = urowsF m d (ix2 ⟨512 * (wL L).val + (64 * c.val + (y 0).val), chunk_inb L c (y 0)⟩ (y 1)) := by
  unfold FUc urowsF
  rw [xrow_ctxRow m d L xs hx c (y 0)]

end Cert.Proof.TileU

end
-- ==== Proof.TileUElemVal.lean ====
/-
  The partial products the element loop stores are the specified ones: entry 80 (64 c + e) + 16 k + l of the
  subcore's 40960 holds the partial product of batch element 512 w + 64 c + e, negative k, lane l.
-/
import proofs.«218857_g62938450756068_cont_9to1c4b_813_41_alg».proof.Proof.TileUValue
import proofs.«218857_g62938450756068_cont_9to1c4b_813_41_alg».proof.Proof.TileUElem

noncomputable section

namespace Cert.Proof.TileU

open Cert.KernelIdeal Cert.KernelIdeal.Gen Cert.Proof.KernelIdealBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)

theorem part_inb (p : S40960.Idx) : 40960 * (wL L).val + (p 0).val < 1310720 := by
  have h1 : (p 0).val < 40960 := (p 0).isLt
  have h2 := (wL L).isLt; omega

/-- The subcore's 40960 partial products as specified: entry p is entry 40960 w + p of the whole array. -/
def Gp : S40960.Idx → F .f32 := fun p => pnegF m d (ix1 ⟨40960 * (wL L).val + (p 0).val, part_inb L p⟩)

/-- The chunk's r-th negative word (r = 5 e + k) names the table row of the k-th negative of batch element
    512 w + 64 c + e. -/
theorem nrow_negRow (NF : Buf (Elt F) (negFlatLoc d)) (hNF : IsFlat m d NF) (hn : NsOK d L NF ns) (c : Fin 8) (e : Fin 64) (k : Fin 5) :
    nrow ns c (5 * e.val + k.val) = negRow m d ⟨512 * (wL L).val + (64 * c.val + e.val), chunk_inb L c e⟩ k := by
  have hc := c.isLt; have he := e.isLt; have hk := k.isLt; have hw := (wL L).isLt
  have h1 : 320 * c.val + (5 * e.val + k.val) < 2560 := by omega
  apply Fin.ext
  unfold nrow negRow
  simp only [h1, ↓reduceDIte]
  rw [hn]
  have e2 : (ix1 (⟨2560 * (wL L).val + (320 * c.val + (5 * e.val + k.val)), by omega⟩ : Fin 81920) : S81920.Idx)
      = ix1 ⟨5 * (512 * (wL L).val + (64 * c.val + e.val)) + k.val, by omega⟩ := congrArg ix1 (Fin.ext (by simp only []; omega))
  have e3 := hNF ⟨512 * (wL L).val + (64 * c.val + e.val), chunk_inb L c e⟩ k
  show ((NF : S81920.Idx → BitVec 32) (ix1 ⟨2560 * (wL L).val + (320 * c.val + (5 * e.val + k.val)), _⟩)).toNat % 1000000 = _
  rw [e2, e3]

theorem col_eq (r : Fin 1000000) (a b : ℕ) (ha : a < 64) (hb : b < 64) (h : a = b) :
    (m (euLoc d) : S1000000x64.Idx → F .f32) (ix2 r ⟨a, ha⟩) = (m (euLoc d) : S1000000x64.Idx → F .f32) (ix2 r ⟨b, hb⟩) := by
  subst h; rfl

theorem Gp_elemVal (NF : Buf (Elt F) (negFlatLoc d)) (hNF : IsFlat m d NF) (hx : XsOK m d L xs) (hn : NsOK d L NF ns)
    (c : Fin 8) (e : Fin 64) (k : Fin 5) (l : Fin 16) (h : 80 * (64 * c.val + e.val) + 16 * k.val + l.val < 40960) :
    Gp m d L (ix1 ⟨80 * (64 * c.val + e.val) + 16 * k.val + l.val, h⟩) = elemVal (FUc m d L xs c) (FNc m d L ns c) e k l := by
  have hc := c.isLt; have he := e.isLt; have hk := k.isLt; have hl := l.isLt; have hw := (wL L).isLt
  unfold Gp pnegF
  have eb : (⟨(40960 * (wL L).val + (80 * (64 * c.val + e.val) + 16 * k.val + l.val)) / 80, by omega⟩ : Fin 16384)
      = ⟨512 * (wL L).val + (64 * c.val + e.val), chunk_inb L c e⟩ := Fin.ext (by simp only []; omega)
  have ek : (⟨(40960 * (wL L).val + (80 * (64 * c.val + e.val) + 16 * k.val + l.val)) / 16 % 5, Nat.mod_lt _ (by decide)⟩ : Fin 5) = k :=
    Fin.ext (by simp only []; omega)
  have el : (⟨(40960 * (wL L).val + (80 * (64 * c.val + e.val) + 16 * k.val + l.val)) % 16, Nat.mod_lt _ (by decide)⟩ : Fin 16) = l :=
    Fin.ext (by simp only []; omega)
  show partial1 m d ⟨(40960 * (wL L).val + (80 * (64 * c.val + e.val) + 16 * k.val + l.val)) / 80, _⟩
      ⟨(40960 * (wL L).val + (80 * (64 * c.val + e.val) + 16 * k.val + l.val)) / 16 % 5, _⟩
      ⟨(40960 * (wL L).val + (80 * (64 * c.val + e.val) + 16 * k.val + l.val)) % 16, _⟩ = _
  rw [eb, ek, el]
  unfold partial1 elemVal piece FUc FNc
  rw [← nrow_negRow m d L ns NF hNF hn c e k, ← xrow_ctxRow m d L xs hx c e]
  congr 1
  congr 1
  congr 1
  congr 1
  congr 1
  · exact col_eq m d _ _ _ _ _ (by simp)
  · exact col_eq m d _ _ _ _ _ (by simp)

end Cert.Proof.TileU

end
-- ==== Proof.TileUBody.lean ====
/-
  The first SparseCore kernel's body on one vector subcore: the two copies of index words, eight chunks (a batch of
  384 row copies issued and drained, the element loop, the copy-out of the chunk's context rows), the copy-out of the
  partial products.
-/
import proofs.«218857_g62938450756068_cont_9to1c4b_813_41_alg».proof.Proof.TileUTripC0
import proofs.«218857_g62938450756068_cont_9to1c4b_813_41_alg».proof.Proof.TileUTripC1
import proofs.«218857_g62938450756068_cont_9to1c4b_813_41_alg».proof.Proof.TileUTripC2
import proofs.«218857_g62938450756068_cont_9to1c4b_813_41_alg».proof.Proof.TileUTripC3
import proofs.«218857_g62938450756068_cont_9to1c4b_813_41_alg».proof.Proof.TileUTripC4
import proofs.«218857_g62938450756068_cont_9to1c4b_813_41_alg».proof.Proof.TileUTripC5
import proofs.«218857_g62938450756068_cont_9to1c4b_813_41_alg».proof.Proof.TileUTripC6
import proofs.«218857_g62938450756068_cont_9to1c4b_813_41_alg».proof.Proof.TileUTripC7
import proofs.«218857_g62938450756068_cont_9to1c4b_813_41_alg».proof.Proof.TileUDrainLoop
import proofs.«218857_g62938450756068_cont_9to1c4b_813_41_alg».proof.Proof.TileUDrainC1
import proofs.«218857_g62938450756068_cont_9to1c4b_813_41_alg».proof.Proof.TileUDrainC2
import proofs.«218857_g62938450756068_cont_9to1c4b_813_41_alg».proof.Proof.TileUDrainC3
import proofs.«218857_g62938450756068_cont_9to1c4b_813_41_alg».proof.Proof.TileUDrainC4
import proofs.«218857_g62938450756068_cont_9to1c4b_813_41_alg».proof.Proof.TileUDrainC5
import proofs.«218857_g62938450756068_cont_9to1c4b_813_41_alg».proof.Proof.TileUDrainC6
import proofs.«218857_g62938450756068_cont_9to1c4b_813_41_alg».proof.Proof.TileUDrainC7
import proofs.«218857_g62938450756068_cont_9to1c4b_813_41_alg».proof.Proof.TileUElemC0
import proofs.«218857_g62938450756068_cont_9to1c4b_813_41_alg».proof.Proof.TileUElemC1
import proofs.«218857_g62938450756068_cont_9to1c4b_813_41_alg».proof.Proof.TileUElemC2
import proofs.«218857_g62938450756068_cont_9to1c4b_813_41_alg».proof.Proof.TileUElemC3
import proofs.«218857_g62938450756068_cont_9to1c4b_813_41_alg».proof.Proof.TileUElemC4
import proofs.«218857_g62938450756068_cont_9to1c4b_813_41_alg».proof.Proof.TileUElemC5
import proofs.«218857_g62938450756068_cont_9to1c4b_813_41_alg».proof.Proof.TileUElemC6
import proofs.«218857_g62938450756068_cont_9to1c4b_813_41_alg».proof.Proof.TileUElemC7
import proofs.«218857_g62938450756068_cont_9to1c4b_813_41_alg».proof.Proof.TileULanded
import proofs.«218857_g62938450756068_cont_9to1c4b_813_41_alg».proof.Proof.TileUOut
import proofs.«218857_g62938450756068_cont_9to1c4b_813_41_alg».proof.Proof.TileUPneg
import proofs.«218857_g62938450756068_cont_9to1c4b_813_41_alg».proof.Proof.TileUGlue
import proofs.«218857_g62938450756068_cont_9to1c4b_813_41_alg».proof.Proof.TileUElemVal

noncomputable section

namespace Cert.Proof.TileU

open Cert.KernelIdeal Cert.KernelIdeal.Gen Cert.Proof.KernelIdealBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)

/-- A chunk's copied-out block of context rows is that block of the specified rows. -/
theorem blk_value (xs : S512.Idx → BitVec 32) (hx : XsOK m d L xs) (c : Fin 8) (P : S64x64.Idx → F .f32) (hP : P = FUc m d L xs c)
    (y : S16384x64.Idx) (h1 : 512 * (wL L).val + 64 * c.val ≤ (y 0).val) (h2 : (y 0).val < 512 * (wL L).val + 64 * c.val + 64)
    (hr : (y 0).val - (512 * (wL L).val + 64 * c.val) < 64) :
    P (ix2 ⟨(y 0).val - (512 * (wL L).val + 64 * c.val), hr⟩ (y 1)) = urowsF m d y := by
  subst hP
  rw [FUc_urowsF m d L xs hx c]
  congr 1
  refine Eq.trans ?_ (eq_ix2 y).symm
  congr 1
  apply Fin.ext
  show 512 * (wL L).val + (64 * c.val + ((y 0).val - (512 * (wL L).val + 64 * c.val))) = (y 0).val
  omega

/- One chunk: the batch allocated; the issue loop; the drain loop; the rows landed; the element loop; the chunk's
   context rows copied out and restated as the specified rows. In scope: the words xs ns with their facts, the current
   contents of the two staging buffers (fuT, fnT), the waits recorded so far (Wc, hWc), the partial products written so
   far (hfp). -/
set_option hygiene false in
macro "chunk_block" c:num fuT:term:max fnT:term:max trip:ident drain:ident elem:ident v2a:term:max v2b:term:max v2c:term:max lp1:ident lp2:ident lp3:ident osem:ident HuBp:icasesPat HuBs:specPat blkc:ident blkw:ident memb:ident : tactic => `(tactic| (
  imod (Transfers.batch_alloc' (Lvl := ℕ) (countersEmb (U := UU)) (V d (cV L) (jV L)) (none : HIx 2) NR (DU m d L xs ns $c $fuT $fnT) (sm := .dma cc0_scratch5.sem) (E := Set.univ)) $$ Hs5 with HB
  sl_for (fun (k : ℕ) (_ : Unit) => iprop(issueSt m d L xs ns $c $fuT $fnT (96 * k) ∗ ((V d (cV L) (jV L)).loc cc0_scratch0 ↦{fullShare} xs) ∗ ((V d (cV L) (jV L)).loc cc0_scratch1 ↦{fullShare} ns))) $$ [HB HbC HbD Heu HbA HbB]
  · intro k acc; exact $trip m d L xs ns $fuT $fnT hxs hns $v2a k acc
  · unfold issueSt
    rw [show uIdx (96 * 0) = 0 from rfl, show nIdx (96 * 0) = 0 from rfl, uFrom_zero, nFrom_zero, Finset.range_zero, bigSep_empty]
    isplitl [HB HbC HbD Heu]
    · isplitl [HB]; · iexact HB
      isplitl [HbC]; · iexact HbC
      isplitl [HbD]; · iexact HbD
      isplitl [Heu]; · iexact Heu
      iempintro
    isplitl [HbA] <;> iassumption
  rw [show Scf.trips ($lp1).lb ($lp1).ub ($lp1).st = 4 from by decide]
  iintro %acc1 ⟨HS, HbA, HbB⟩
  unfold issueSt
  icases HS with ⟨HB, -, -, Heu, HR⟩
  sl_exec
  ihave HOp := (owes_pack (F := F) d L O W _ ?hw) $$ HO
  case hw => exact hWc
  sl_for (fun (k : ℕ) (_ : Unit) => drainSt m d L xs ns $c $fuT $fnT O W k) $$ [HB HOp]
  · intro k acc; exact $drain m d L xs ns $fuT $fnT O W hO $v2b k acc
  · unfold drainSt
    rw [if_pos (by decide)]
    isplitr; · iexact Hlv
    isplitl [HOp]; · iexact HOp
    rw [show 6 * 0 * NR = 0 by simp]; iexact HB
  rw [show Scf.trips ($lp2).lb ($lp2).ub ($lp2).st = 64 from by decide]
  iintro %acc2 HD
  unfold drainSt owesSt
  rw [if_neg (by decide)]
  icases HD with ⟨-, ⟨%Wc, %hWc, HO⟩, HDU, Hs5⟩
  ihave HC := (collect m d L xs ns $c $fuT $fnT) $$ [HDU HR Heu]
  · isplitl [HDU]; · iexact HDU
    isplitl [HR] <;> iassumption
  icases HC with ⟨HbC, HbD, Heu⟩
  sl_exec
  sl_for (fun (k : ℕ) (_ : Unit) => elemSt d L (FUc m d L xs $c) (FNc m d L ns $c) (Gp m d L) (80 * (64 * $c + k))) $$ [HbC HbD HbE]
  · intro k acc
    exact $elem d L (FUc m d L xs $c) (FNc m d L ns $c) (Gp m d L) (fun e k l => Gp_elemVal m d L xs ns NF hNF hx hn $c e k l _) $v2c k acc
  · unfold elemSt
    isplitl [HbC]; · iexact HbC
    isplitl [HbD]; · iexact HbD
    iexists _; isplitr
    · ipureintro; intro p hp; exact hfp p (by omega)
    · iexact HbE
  rw [show Scf.trips ($lp3).lb ($lp3).ub ($lp3).st = 64 from by decide]
  iintro %acc3 HE3
  unfold elemSt
  icases HE3 with ⟨HbC, HbD, %fpc, %hfp, HbE⟩
  sl_exec
  have hWc := hW_ins W Wc hWc (SemLoc.dma ($osem).sem)
  ihave $HuBp := (Entails.of_eq ($blkc d L _ (urowsF m d) ?hblk)) $$ $HuBs
  case hblk =>
    intro y h1 h2
    rw [← View.write_univ_eq_writes_whole, $blkw d L _ _ y (($memb L y).mpr ⟨h1, h2⟩)]
    exact blk_value m d L xs hx $c _ rfl y h1 h2 _))

set_option maxHeartbeats 16000000 in
set_option maxRecDepth 65536 in
/-- The task of the subcore at grid coordinates L. -/
theorem tile_body_u (hF : (K (F := F)).Facts) (hpre : PreOKU m) (NF : Buf (Elt F) (negFlatLoc d)) (hNF : IsFlat m d NF)
    (O : CellTallies nD τ sig (HIx 2)) (W : Waits sig (HIx 2)) (hO : ∀ g, O g none = 0)
    (fp : Buf (Elt F) (pnegLoc d)) (fu : Buf (Elt F) (urowsLoc d)) :
    iprop(levAts (K (F := F)).L (K (F := F)).lev ∗ emp ∗ goU m d L NF fp fu
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_u_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10)
          fun _ => iprop(tdU m d L NF ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_u_body_eq_skeleton]; unfold cc0__sc_u_body_skel
  rw [(K (F := F)).scopedBufs_V hF d (cV L) (jV L), SparseCore.Cfg.scopedSems0_V (Val := Elt F) d (cV L) (jV L), ownSems0_V, ownBufs_V',
    bigSep_semsU]
  unfold goU
  iintro ⟨#Hlv, -, ⟨Hctx, Hneg, Heu, Hpn, Hur⟩, ⟨⟨⟨%f0, HbA⟩, ⟨%f1, HbB⟩, ⟨%f2, HbC⟩, ⟨%f3, HbD⟩, ⟨%f4, HbE⟩⟩, Hbufs⟩,
    ⟨⟨Hs5, Hr0, Hr1, Hr2, Hr3, Hr4, Hr5, Hr6, Hr7, Hr8, Hr9, Hr10⟩, Hsems⟩, HO⟩
  ihave Hmw := ((K (F := F)).mayWaits_none (thr := V d (cV L) (jV L)) hO) $$ Hlv
  ihave Hctx' := (Entails.of_eq (pts_ctxK (F := F) d L _).symm) $$ Hctx
  ihave Hneg' := (Entails.of_eq (pts_negK (F := F) d L _).symm) $$ Hneg
  ihave Hpn' := (Entails.of_eq (pts_pnegK (F := F) d L _).symm) $$ Hpn
  ihave HuBs := (Entails.of_eq (urows_blocks (F := F) d L fu)) $$ Hur
  icases HuBs with ⟨HuB0, HuB1, HuB2, HuB3, HuB4, HuB5, HuB6, HuB7⟩
  -- the two copies of index words and their waits
  sl_exec
  ihave HA := (name_xs m d L _ f0 ?hPx) $$ HbA
  case hPx => intro j; exact read_ctxK (F := F) d L (m (ctxLoc d)) j _
  ihave HBn := (name_ns d L NF _ f1 ?hPn) $$ HbB
  case hPn => intro j; exact read_negK (F := F) d L NF j _
  icases HA with ⟨%xs, %hx, HbA⟩
  icases HBn with ⟨%ns, %hn, HbB⟩
  have hxs := xs_lt m d L hpre xs hx
  have hns := ns_lt m d L hpre NF hNF ns hn
  have hWc : ∀ p ∈ insert ((SemLoc.dma cc0_scoped1.sem : SemLoc sig), (none : HIx 2)) (insert ((SemLoc.dma cc0_scoped0.sem : SemLoc sig), (none : HIx 2)) W), p ∈ W ∨ p.2 = none :=
    hW_ins W _ (hW_ins W W (fun p hp => .inl hp) _) _
  have hfp : ∀ p : S40960.Idx, (p 0).val < 80 * (64 * 0) → f4 p = Gp m d L p := fun p hp => absurd hp (by omega)
  chunk_block 0 f2 f3 trip0 drain_trip0 elem_trip0 (0#32) (0#32) (0#32) k0_t1_loop k0_t2_loop k0_t3_loop cc0_scoped2 HuB0 HuB0 blk_congr0 blk_write0 mem_blk0
  chunk_block 1 (FUc m d L xs 0) (FNc m d L ns 0) trip1 drain_trip1 elem_trip1 (0#32) _ _ k0_t4_loop k0_t5_loop k0_t6_loop cc0_scoped3 HuB1 HuB1 blk_congr1 blk_write1 mem_blk1
  chunk_block 2 (FUc m d L xs 1) (FNc m d L ns 1) trip2 drain_trip2 elem_trip2 _ _ _ k0_t7_loop k0_t8_loop k0_t9_loop cc0_scoped4 HuB2 HuB2 blk_congr2 blk_write2 mem_blk2
  chunk_block 3 (FUc m d L xs 2) (FNc m d L ns 2) trip3 drain_trip3 elem_trip3 _ _ _ k0_t10_loop k0_t11_loop k0_t12_loop cc0_scoped5 HuB3 HuB3 blk_congr3 blk_write3 mem_blk3
  chunk_block 4 (FUc m d L xs 3) (FNc m d L ns 3) trip4 drain_trip4 elem_trip4 _ _ _ k0_t13_loop k0_t14_loop k0_t15_loop cc0_scoped6 HuB4 HuB4 blk_congr4 blk_write4 mem_blk4
  chunk_block 5 (FUc m d L xs 4) (FNc m d L ns 4) trip5 drain_trip5 elem_trip5 _ _ _ k0_t16_loop k0_t17_loop k0_t18_loop cc0_scoped7 HuB5 HuB5 blk_congr5 blk_write5 mem_blk5
  chunk_block 6 (FUc m d L xs 5) (FNc m d L ns 5) trip6 drain_trip6 elem_trip6 _ _ _ k0_t19_loop k0_t20_loop k0_t21_loop cc0_scoped8 HuB6 HuB6 blk_congr6 blk_write6 mem_blk6
  chunk_block 7 (FUc m d L xs 6) (FNc m d L ns 6) trip7 drain_trip7 elem_trip7 (0#32) (0#32) (0#32) k0_t22_loop k0_t23_loop k0_t24_loop cc0_scoped9 HuB7 HuB7 blk_congr7 blk_write7 mem_blk7
  -- the copy-out of the partial products has run with the last chunk's; its wait recorded
  have hWc := hW_ins W _ hWc (SemLoc.dma cc0_scoped10.sem)
  sl_step
  rw [← View.write_univ_eq_writes_whole]
  unfold tdU goU
  isplitl [Hctx' Hneg' Heu Hpn' HuB0 HuB1 HuB2 HuB3 HuB4 HuB5 HuB6 HuB7]
  · isplitl [Hctx']; · iapply (Entails.of_eq (pts_ctxK (F := F) d L _)); iexact Hctx'
    isplitl [Hneg']; · iapply (Entails.of_eq (pts_negK (F := F) d L _)); iexact Hneg'
    isplitl [Heu]; · iexact Heu
    isplitl [Hpn']
    · iapply (Entails.of_eq (pneg_landed m d L _ _ (fun p => hfp p (by have h : (p 0).val < 40960 := (p 0).isLt; omega)))); iexact Hpn'
    · iapply (Entails.of_eq (urows_blocks (F := F) d L (urowsF m d)).symm)
      isplitl [HuB0]; · iexact HuB0
      isplitl [HuB1]; · iexact HuB1
      isplitl [HuB2]; · iexact HuB2
      isplitl [HuB3]; · iexact HuB3
      isplitl [HuB4]; · iexact HuB4
      isplitl [HuB5]; · iexact HuB5
      isplitl [HuB6]; · iexact HuB6
      iexact HuB7
  isplitl [HbA HbB HbC HbD HbE Hbufs]
  · isplitl [HbA HbB HbC HbD HbE]
    · isplitl [HbA]; · iexists _; iexact HbA
      isplitl [HbB]; · iexists _; iexact HbB
      isplitl [HbC]; · iexists _; iexact HbC
      isplitl [HbD]; · iexists _; iexact HbD
      iexists _; iexact HbE
    · iexact Hbufs
  isplitl [Hs5 Hr0 Hr1 Hr2 Hr3 Hr4 Hr5 Hr6 Hr7 Hr8 Hr9 Hr10 Hsems]
  · isplitl [Hs5 Hr0 Hr1 Hr2 Hr3 Hr4 Hr5 Hr6 Hr7 Hr8 Hr9 Hr10]
    · isplitl [Hs5]; · iexact Hs5
      isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      isplitl [Hr7]; · iexact Hr7
      isplitl [Hr8]; · iexact Hr8
      isplitl [Hr9]; · iexact Hr9
      iexact Hr10
    · iexact Hsems
  iexists _; isplitr
  · ipureintro; exact hWc
  · iexact HO

end Cert.Proof.TileU

end
-- ==== Proof.TileVRect.lean ====
/-
  Rows and lanes as rectangles. A table of `n` rows of 64 entries is cut by unit-stride rectangles: a whole row
  `[r, r+1) × [0, 64)`, or a 16-lane piece `[r, r+1) × [c, c+16)` of one; a flat array of `n` entries by a run
  `[o, o+k)`. These lemmas say which element of the array an element of the rectangle is, and read a row viewed as
  a 64-entry vector (its unit leading axis dropped).
-/
import Idealize.ShloMosaic.PureOps
import Idealize.ShloMosaic.Lib.Pipeline.Value
import Idealize.ShloMosaic.Lib.ValueIdx

namespace Cert.Proof.TileVRect

open Idealize.ShloMosaic Idealize.ShloMosaic.ValueIdx

/-- Element `y` of the rectangle `[r, r+1) × [c, c+k)` of an `n × m` array is the array's `(r, c + y₁)`. -/
theorem emb_piece {n m : ℕ} (r c k : ℕ) (h : ∀ a, (![r, c] : Fin 2 → ℕ) a + (![1, k] : Fin 2 → ℕ) a ≤ (⟨2, ![n, m]⟩ : Shape).size a)
    (y : (Rect.unit (s := ⟨2, ![n, m]⟩) ![r, c] ![1, k] h).shape.Idx) (hr : r < n) (hc : c + (y 1).val < m) :
    (Rect.unit (s := ⟨2, ![n, m]⟩) ![r, c] ![1, k] h).emb y = ix2 (⟨r, hr⟩ : Fin n) (⟨c + (y 1).val, hc⟩ : Fin m) := by
  funext a; apply Fin.ext
  rw [Rect.emb_apply]
  match a with
  | ⟨0, _⟩ =>
    have h0 : (y 0).val < 1 := (y 0).isLt
    show r + 1 * (y 0).val = r
    omega
  | ⟨1, _⟩ =>
    show c + 1 * (y 1).val = c + (y 1).val
    omega

/-- Element `y` of the run `[o, o+k)` of a flat array of `n` entries is the array's `o + y₀`. -/
theorem emb_run {n : ℕ} (o k : ℕ) (h : ∀ a, (![o] : Fin 1 → ℕ) a + (![k] : Fin 1 → ℕ) a ≤ (⟨1, ![n]⟩ : Shape).size a)
    (y : (Rect.unit (s := ⟨1, ![n]⟩) ![o] ![k] h).shape.Idx) (ho : o + (y 0).val < n) :
    (Rect.unit (s := ⟨1, ![n]⟩) ![o] ![k] h).emb y = ix1 (⟨o + (y 0).val, ho⟩ : Fin n) := by
  funext a; apply Fin.ext
  rw [Rect.emb_apply]
  match a with
  | ⟨0, _⟩ =>
    show o + 1 * (y 0).val = o + (y 0).val
    omega

/-- A 64-entry vector viewed as a `1 × 64` row: entry `x` is `(0, x)`. -/
theorem reshape_row (h : (⟨1, ![64]⟩ : Shape).numel = (⟨2, ![1, 64]⟩ : Shape).numel) (x : (⟨1, ![64]⟩ : Shape).Idx) :
    Shape.reshapeEquiv h x = ix2 (0 : Fin 1) (show Fin 64 from x 0) := by
  apply Shape.reshapeEquiv_eq_of_rowMajor
  rw [Shape.rowMajor_val_two, Shape.rowMajor_val_one]
  show (0 : ℕ) * 64 + (x 0).val = (x 0).val
  omega

/-- The check a row copy's source owes: a row number below the table's extent names a whole row. -/
theorem row_inb (v : ℕ) (h : v < 1000000) :
    ∀ a, (![v, 0] : Fin 2 → ℕ) a + (⟨2, ![1, 64]⟩ : Shape).size a ≤ (⟨2, ![1000000, 64]⟩ : Shape).size a := by
  intro a
  match a with
  | ⟨0, _⟩ => show v + 1 ≤ 1000000; omega
  | ⟨1, _⟩ => show 0 + 64 ≤ 64; omega

/-- Part `w` of `P` along the only axis of a flat array of `N` entries: entries `[(N/P)·w, (N/P)·w + N/P)`. -/
theorem mem_part1 {N P : ℕ} (h : P ∣ (⟨1, ![N]⟩ : Shape).size 0) (w : Fin P) (y : (⟨1, ![N]⟩ : Shape).Idx) :
    y ∈ (Rect.part (s := ⟨1, ![N]⟩) (a₀ := 0) h w).set ↔ w.val * (N / P) ≤ (y 0).val ∧ (y 0).val < w.val * (N / P) + N / P := by
  show y ∈ (Rect.unit (s := ⟨1, ![N]⟩) _ _ _).set ↔ _
  rw [Rect.mem_set_unit]
  constructor
  · intro H; exact H 0
  · intro H a
    obtain rfl : a = 0 := Subsingleton.elim _ _
    exact H

/-- Part `w` of `P` along the rows of an `N × M` array: rows `[(N/P)·w, (N/P)·w + N/P)`, every column. -/
theorem mem_part2 {N M P : ℕ} (h : P ∣ (⟨2, ![N, M]⟩ : Shape).size 0) (w : Fin P) (y : (⟨2, ![N, M]⟩ : Shape).Idx) :
    y ∈ (Rect.part (s := ⟨2, ![N, M]⟩) (a₀ := 0) h w).set ↔ w.val * (N / P) ≤ (y 0).val ∧ (y 0).val < w.val * (N / P) + N / P := by
  show y ∈ (Rect.unit (s := ⟨2, ![N, M]⟩) _ _ _).set ↔ _
  rw [Rect.mem_set_unit]
  constructor
  · intro H; exact H 0
  · intro H a
    match a with
    | ⟨0, _⟩ => exact H
    | ⟨1, _⟩ =>
      have h1 : (y 1).val < M := (y 1).isLt
      show 0 * M ≤ (y 1).val ∧ (y 1).val < 0 * M + M
      omega

/-- The run `[o, o+k)` of a flat array. -/
theorem mem_run {N : ℕ} (o k : ℕ) (h : ∀ a, (![o] : Fin 1 → ℕ) a + (![k] : Fin 1 → ℕ) a ≤ (⟨1, ![N]⟩ : Shape).size a)
    (y : (⟨1, ![N]⟩ : Shape).Idx) :
    y ∈ (Rect.unit (s := ⟨1, ![N]⟩) ![o] ![k] h).set ↔ o ≤ (y 0).val ∧ (y 0).val < o + k := by
  rw [Rect.mem_set_unit]
  constructor
  · intro H; exact H 0
  · intro H a
    match a with
    | ⟨0, _⟩ => exact H

/-- The rows `[o, o+k)` of an `N × M` array, every column. -/
theorem mem_rows {N M : ℕ} (o k : ℕ) (h : ∀ a, (![o, 0] : Fin 2 → ℕ) a + (![k, M] : Fin 2 → ℕ) a ≤ (⟨2, ![N, M]⟩ : Shape).size a)
    (y : (⟨2, ![N, M]⟩ : Shape).Idx) :
    y ∈ (Rect.unit (s := ⟨2, ![N, M]⟩) ![o, 0] ![k, M] h).set ↔ o ≤ (y 0).val ∧ (y 0).val < o + k := by
  rw [Rect.mem_set_unit]
  constructor
  · intro H; exact H 0
  · intro H a
    match a with
    | ⟨0, _⟩ => exact H
    | ⟨1, _⟩ =>
      have h1 : (y 1).val < M := (y 1).isLt
      show 0 ≤ (y 1).val ∧ (y 1).val < 0 + M
      omega

/-- `mem_run` for offsets given by an equation (a printed offset function and its closed form). -/
theorem mem_run_of_eq {N : ℕ} (off : Fin 1 → ℕ) (o k : ℕ) (e : off = ![o])
    (h : ∀ a, off a + (![k] : Fin 1 → ℕ) a ≤ (⟨1, ![N]⟩ : Shape).size a) (y : (⟨1, ![N]⟩ : Shape).Idx) :
    y ∈ (Rect.unit (s := ⟨1, ![N]⟩) off ![k] h).set ↔ o ≤ (y 0).val ∧ (y 0).val < o + k := by
  subst e; exact mem_run o k h y

/-- `mem_rows` for offsets given by an equation. -/
theorem mem_rows_of_eq {N M : ℕ} (off : Fin 2 → ℕ) (o k : ℕ) (e : off = ![o, 0])
    (h : ∀ a, off a + (![k, M] : Fin 2 → ℕ) a ≤ (⟨2, ![N, M]⟩ : Shape).size a) (y : (⟨2, ![N, M]⟩ : Shape).Idx) :
    y ∈ (Rect.unit (s := ⟨2, ![N, M]⟩) off ![k, M] h).set ↔ o ≤ (y 0).val ∧ (y 0).val < o + k := by
  subst e; exact mem_rows o k h y

end Cert.Proof.TileVRect
-- ==== Proof.TileVMem.lean ====
/-
  The second SparseCore kernel's buffers as one vector subcore addresses them, and how its views of the
  arrays read the slices of `TileVDefs`.

  The subcore sees the four arrays whole through its own memrefs and cuts its slices out by the printed offset
  functions: centre words `[512w, +512)`, context rows `[512w + 64j, +64)` for each of the eight chunks `j`,
  partial products `[8192w, +8192)`. Its scratch buffers hold 512 index words, 64 gathered table rows, 64
  context rows and 8192 partial products.
-/
import proofs.«218857_g62938450756068_cont_9to1c4b_813_41_alg».proof.Proof.TileVDefs
import proofs.«218857_g62938450756068_cont_9to1c4b_813_41_alg».proof.Proof.TileVRect

noncomputable section

namespace Cert.Proof.TileVMem

open Cert.KernelIdeal Cert.KernelIdeal.Gen Cert.Proof.KernelIdealBase Cert.Proof.TileVDefs

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## The memrefs -/

abbrev cW : Memref sig .scVector .hbm S16384 .i32 := Memref.whole main_arg0_scv
abbrev evW : Memref sig .scVector .hbm S1000000x64 .f32 := Memref.whole main_arg3_scv
abbrev uW : Memref sig .scVector .hbm S16384x64 .f32 := Memref.whole main_v1_1_scv
abbrev pW : Memref sig .scVector .hbm S262144 .f32 := Memref.whole main_v2_scv
abbrev s0 : Memref sig .scVector .vmem S512 .i32 := Memref.whole cc1_scratch0
abbrev s1 : Memref sig .scVector .vmem S64x64 .f32 := Memref.whole cc1_scratch1
abbrev s2 : Memref sig .scVector .vmem S64x64 .f32 := Memref.whole cc1_scratch2
abbrev s3 : Memref sig .scVector .vmem S8192 .f32 := Memref.whole cc1_scratch3

variable (d : Dev nD) (L : grid1.Coords)

/-- The subcore's thread. -/
abbrev thr : Thread nD τ := V d (cV L) (jV L)

/-- The rectangles the body cuts its slices by: the centre words, the context rows of chunk `j`, the partial products. -/
abbrev centerKRect : Rect S16384 := Rect.unit (s := S16384) (k1_off1 L) S512.size (K1.Facts₀.k1_off1_inb L)
abbrev urowsKRect (j : Fin 8) : Rect S16384x64 :=
  Rect.unit (s := S16384x64) (k1_off2 L (BitVec.ofNat 32 (64 * j.val))) S64x64.size (K1.Facts₀.k1_off2_inb L j)
abbrev pposKRect : Rect S262144 := Rect.unit (s := S262144) (k1_off315 L) S8192.size (K1.Facts₀.k1_off315_inb L)

/-- The subcore's centre words, context rows of chunk `j`, and partial products, as the body slices them. -/
def centerK : Memref sig .scVector .hbm S512 .i32 := (cW).slice (centerKRect L) (fun _ => rfl)
def urowsK (j : Fin 8) : Memref sig .scVector .hbm S64x64 .f32 := (uW).slice (urowsKRect L j) (fun _ => rfl)
def pposK : Memref sig .scVector .hbm S8192 .f32 := (pW).slice (pposKRect L) (fun _ => rfl)

/-! ## The slices' element sets -/

theorem mem_centerSlice (w : Fin 32) (y : S16384.Idx) : y ∈ centerSlice w ↔ 512 * w.val ≤ (y 0).val ∧ (y 0).val < 512 * w.val + 512 := by
  have h := TileVRect.mem_part1 (N := 16384) (P := 32) hdiv_center w y
  constructor
  · intro H; have := h.mp H; omega
  · intro H; exact h.mpr (by omega)

theorem mem_urowsSlice (w : Fin 32) (y : S16384x64.Idx) : y ∈ urowsSlice w ↔ 512 * w.val ≤ (y 0).val ∧ (y 0).val < 512 * w.val + 512 := by
  have h := TileVRect.mem_part2 (N := 16384) (M := 64) (P := 32) hdiv_urows w y
  constructor
  · intro H; have := h.mp H; omega
  · intro H; exact h.mpr (by omega)

theorem mem_pposSlice (w : Fin 32) (y : S262144.Idx) : y ∈ pposSlice w ↔ 8192 * w.val ≤ (y 0).val ∧ (y 0).val < 8192 * w.val + 8192 := by
  have h := TileVRect.mem_part1 (N := 262144) (P := 32) hdiv_ppos w y
  constructor
  · intro H; have := h.mp H; omega
  · intro H; exact h.mpr (by omega)

theorem set_centerK_rect : (centerK L).view.set = (centerKRect L).set := by
  unfold centerK
  show ((View.whole (main_arg0_scv : Ref sig .scVector)).slice _).set = _
  rw [View.set_slice_whole]
theorem set_urowsK_rect (j : Fin 8) : (urowsK L j).view.set = (urowsKRect L j).set := by
  unfold urowsK
  show ((View.whole (main_v1_1_scv : Ref sig .scVector)).slice _).set = _
  rw [View.set_slice_whole]
theorem set_pposK_rect : (pposK L).view.set = (pposKRect L).set := by
  unfold pposK
  show ((View.whole (main_v2_scv : Ref sig .scVector)).slice _).set = _
  rw [View.set_slice_whole]

theorem mem_centerKRect (y : S16384.Idx) :
    y ∈ (centerKRect L).set ↔ 512 * (wL L).val ≤ (y 0).val ∧ (y 0).val < 512 * (wL L).val + 512 := by
  have h : y ∈ (centerKRect L).set ↔ 1024 * (L 1).val + 512 * (L 0).val ≤ (y 0).val ∧ (y 0).val < 1024 * (L 1).val + 512 * (L 0).val + 512 := by
    exact TileVRect.mem_run_of_eq (N := 16384) _ _ _ (k1_off1_eq L) _ y
  rw [h, wL_val]; constructor <;> intro H <;> omega

theorem mem_pposKRect (y : S262144.Idx) :
    y ∈ (pposKRect L).set ↔ 8192 * (wL L).val ≤ (y 0).val ∧ (y 0).val < 8192 * (wL L).val + 8192 := by
  have h : y ∈ (pposKRect L).set ↔ 16384 * (L 1).val + 8192 * (L 0).val ≤ (y 0).val ∧ (y 0).val < 16384 * (L 1).val + 8192 * (L 0).val + 8192 := by
    exact TileVRect.mem_run_of_eq (N := 262144) _ _ _ (k1_off315_eq L) _ y
  rw [h, wL_val]; constructor <;> intro H <;> omega

/-- Chunk `j`'s context rows: rows `[512w + 64j, 512w + 64j + 64)`. -/
theorem mem_urowsKRect (j : Fin 8) (y : S16384x64.Idx) :
    y ∈ (urowsKRect L j).set ↔ 512 * (wL L).val + 64 * j.val ≤ (y 0).val ∧ (y 0).val < 512 * (wL L).val + 64 * j.val + 64 := by
  have h : y ∈ (urowsKRect L j).set ↔ 1024 * (L 1).val + 512 * (L 0).val + 64 * j.val ≤ (y 0).val
      ∧ (y 0).val < 1024 * (L 1).val + 512 * (L 0).val + 64 * j.val + 64 := by
    exact TileVRect.mem_rows_of_eq (N := 16384) (M := 64) _ _ _ (k1_off2_eq L j) _ y
  rw [h, wL_val]; constructor <;> intro H <;> omega

theorem centerKRect_set : (centerKRect L).set = centerSlice (wL L) := by
  ext y; rw [mem_centerKRect, mem_centerSlice]
theorem pposKRect_set : (pposKRect L).set = pposSlice (wL L) := by
  ext y; rw [mem_pposKRect, mem_pposSlice]

theorem urowsKRect_disjoint : ∀ j ∈ (Finset.univ : Finset (Fin 8)), ∀ j' ∈ (Finset.univ : Finset (Fin 8)), j ≠ j' →
    Disjoint (urowsKRect L j).set (urowsKRect L j').set := by
  intro j _ j' _ hne
  rw [Finset.disjoint_left]; intro y hy hy'
  rw [mem_urowsKRect] at hy hy'
  exact hne (Fin.ext (by omega))

theorem urowsKRect_cover : (Finset.univ : Finset (Fin 8)).biUnion (fun j => (urowsKRect L j).set) = urowsSlice (wL L) := by
  ext y
  rw [Finset.mem_biUnion, mem_urowsSlice]
  have hy : (y 0).val < 16384 := (y 0).isLt
  constructor
  · rintro ⟨j, -, hj⟩; rw [mem_urowsKRect] at hj; have := j.isLt; omega
  · intro H
    refine ⟨⟨((y 0).val - 512 * (wL L).val) / 64, by omega⟩, Finset.mem_univ _, ?_⟩
    rw [mem_urowsKRect]
    show 512 * (wL L).val + 64 * (((y 0).val - 512 * (wL L).val) / 64) ≤ (y 0).val ∧ (y 0).val < 512 * (wL L).val + 64 * (((y 0).val - 512 * (wL L).val) / 64) + 64
    omega

/-! ## Rows: a copy's destination in the gathered-rows scratch, its source in the table -/

theorem vrow_inb (e : Fin 64) : ∀ a, (![e.val, 0] : Fin 2 → ℕ) a + S1x64.size a ≤ S64x64.size a := by
  have := e.isLt; intro a
  match a with
  | ⟨0, _⟩ => show e.val + 1 ≤ 64; omega
  | ⟨1, _⟩ => show 0 + 64 ≤ 64; omega

/-- Row `e` of the gathered-rows scratch, as the body spells a row copy's destination. -/
def vRow (e : Fin 64) : Memref sig .scVector .vmem S64 .f32 :=
  ((s1).slice (Rect.unit (s := S64x64) ![e.val, 0] S1x64.size (vrow_inb e)) (fun _ => rfl)).squeeze S64 Shapes1.Facts₀.squeezes_S1x64_S64

/-- Row `v` of the table, as the body spells a row copy's source. -/
def evRow (v : BitVec 32) (h : ∀ a, (![v.toNat, 0] : Fin 2 → ℕ) a + S1x64.size a ≤ S1000000x64.size a) : Memref sig .scVector .hbm S64 .f32 :=
  ((evW).slice (Rect.unit (s := S1000000x64) ![v.toNat, 0] S1x64.size h) (fun _ => rfl)).squeeze S64 Shapes1.Facts₀.squeezes_S1x64_S64

/-- One row's credit on the gather semaphore. -/
abbrev NR : ℕ := (vRow 0).view.amount (.dma cc1_scratch4.sem)

/-- Row `e`'s rectangle in the gathered-rows scratch. -/
abbrev vRowRect (e : Fin 64) : Rect S64x64 := Rect.unit (s := S64x64) ![e.val, 0] S1x64.size (vrow_inb e)

theorem set_vRow (e : Fin 64) : (vRow e).view.set = (vRowRect e).set := by
  unfold vRow
  show (((View.whole (cc1_scratch1 : Ref sig .scVector)).slice _).reshape S64 _).set = _
  rw [View.set_reshape, View.set_slice_whole]

theorem mem_vRowRect (e : Fin 64) (y : S64x64.Idx) : y ∈ (vRowRect e).set ↔ (y 0).val = e.val := by
  have h := TileVRect.mem_rows (N := 64) (M := 64) e.val 1 (vrow_inb e) y
  constructor
  · intro H; have := h.mp H; omega
  · intro H; exact h.mpr (by omega)

theorem vRowRect_disjoint : ∀ e ∈ (Finset.univ : Finset (Fin 64)), ∀ e' ∈ (Finset.univ : Finset (Fin 64)), e ≠ e' →
    Disjoint (vRowRect e).set (vRowRect e').set := by
  intro e _ e' _ hne
  rw [Finset.disjoint_left]; intro y hy hy'
  rw [mem_vRowRect] at hy hy'
  exact hne (Fin.ext (by omega))

theorem vRowRect_cover : (Finset.univ : Finset (Fin 64)).biUnion (fun e => (vRowRect e).set) = Finset.univ := by
  ext y
  rw [Finset.mem_biUnion]
  simp only [Finset.mem_univ, true_and, iff_true]
  exact ⟨⟨(y 0).val, (y 0).isLt⟩, (mem_vRowRect _ _).mpr rfl⟩

end Cert.Proof.TileVMem

end
-- ==== Proof.TileVLand.lean ====
/-
  What a whole-window copy leaves, compared with a stated array. A copy that lands `w` on the whole of a view `v`
  of a buffer leaves, on `v`'s elements, the array `G` whenever `G` at element `x` of the view is `w x`.
-/
import Idealize.ShloMosaic.PureOps
import Idealize.ShloMosaic.Lib.Writes
import Idealize.ShloMosaic.Lib.ValueIdx

namespace Cert.Proof.TileVLand

open Idealize.ShloMosaic

variable {sig : RefSig} {κ : Kind} {sp : Space} {s : Shape} {e : EltTy} {Val : EltTy → Type}

/-- On the view's own elements, the buffer after one whole-window write of `w` is `G`, if `G` reads `w` through the view. -/
theorem writes_whole_eq_on (v : View sig κ sp s e) (f G : v.ty.Contents Val) (w : (Rect.whole s).shape.Idx → Val e)
    (h : ∀ x : s.Idx, v.read Val G x = w x) :
    ∀ i ∈ v.set, v.writes Val f [⟨Rect.whole s, w⟩] i = G i := by
  intro i hi
  obtain ⟨x, -, rfl⟩ := Finset.mem_map.mp hi
  have hr : v.read Val (v.writes Val f [⟨Rect.whole s, w⟩]) ((Rect.whole s).emb x) = w x :=
    View.read_writes_cons_emb v f (Rect.whole s) w [] x
  rw [Rect.emb_whole_apply] at hr
  have h2 := hr.trans (h x).symm
  rw [View.read_apply, View.read_apply] at h2
  exact (cast_bijective _).1 h2

end Cert.Proof.TileVLand
-- ==== Proof.TileVInv.lean ====
/-
  The gather of one chunk, as assertions. Chunk `j` (of eight) of a subcore's slice is 64 batch elements; for
  element `t` the kernel copies the table row named by the element's centre word into row `t` of the
  gathered-rows scratch. All 64 copies complete on ONE semaphore and the rows are read only after all 64 waits:
  the copies form a counted batch whose delivery `t` is row `t` landed beside the read share of the source row.

  Each copy reads the whole-held table through a read token of its own (several may read the same row); what a
  token keeps while its row is lent is carried beside the batch until the last wait.
-/
import proofs.«218857_g62938450756068_cont_9to1c4b_813_41_alg».proof.Proof.TileVMem
import proofs.«218857_g62938450756068_cont_9to1c4b_813_41_alg».proof.Proof.TileVRect
import proofs.«218857_g62938450756068_cont_9to1c4b_813_41_alg».proof.Proof.TileVLand
import Idealize.ShloMosaic.Lib.Ring

noncomputable section

namespace Cert.Proof.TileVInv

open Cert.KernelIdeal Cert.KernelIdeal.Gen Cert.Proof.KernelIdealBase Cert.Proof.TileVDefs Cert.Proof.TileVMem

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable (d : Dev nD) (L : grid1.Coords)

/-- The scratch buffers' and the table's locations on the subcore. -/
abbrev l0 : Loc nD τ sig := (thr d L).loc cc1_scratch0
abbrev l1 : Loc nD τ sig := (thr d L).loc cc1_scratch1
abbrev l2 : Loc nD τ sig := (thr d L).loc cc1_scratch2
abbrev l3 : Loc nD τ sig := (thr d L).loc cc1_scratch3
abbrev lev : Loc nD τ sig := (thr d L).loc main_arg3_scv

variable (cF : Buf (Elt F) (l0 d L)) (hcF : ∀ x : S512.Idx, ((cF : S512.Idx → BitVec 32) x).toNat < 1000000)
variable (ev : Buf (Elt F) (lev d L)) (q : PosShare TreeShare)

/-- The centre word of element `t` of chunk `j`, as the index scratch holds it. -/
def wd (j : Fin 8) (t : Fin 64) : BitVec 32 :=
  (cF : S512.Idx → BitVec 32) (ix1 (⟨64 * j.val + t.val, by have := j.isLt; have := t.isLt; omega⟩ : Fin 512))

include hcF in
theorem wd_inb (j : Fin 8) (t : Fin 64) : ∀ a, (![(wd d L cF j t).toNat, 0] : Fin 2 → ℕ) a + S1x64.size a ≤ S1000000x64.size a :=
  TileVRect.row_inb _ (hcF _)

/-- The table row element `t` of chunk `j` names. -/
def rowAt (j : Fin 8) (t : Fin 64) : Fin 1000000 := ⟨(wd d L cF j t).toNat % 1000000, Nat.mod_lt _ (by decide)⟩

/-- What chunk `j`'s gathered rows hold once every copy has landed: row `t` is the table's row `rowAt j t`. -/
def gath (j : Fin 8) : Buf (Elt F) (l1 d L) := fun y : S64x64.Idx =>
  (ev : S1000000x64.Idx → F .f32) (ix2 (rowAt d L cF j (⟨(y 0).val, (y 0).isLt⟩ : Fin 64)) (⟨(y 1).val, (y 1).isLt⟩ : Fin 64))

/-- Row `v`'s rectangle in the table. -/
abbrev evRowRect (v : BitVec 32) (h : ∀ a, (![v.toNat, 0] : Fin 2 → ℕ) a + S1x64.size a ≤ S1000000x64.size a) : Rect S1000000x64 :=
  Rect.unit (s := S1000000x64) ![v.toNat, 0] S1x64.size h

/-- Delivery `t` of chunk `j`'s batch: row `t` of the scratch at its landed contents, and the source row's read share. -/
def Dv (j : Fin 8) (t : Fin 64) : sProp 𝕄 :=
  iprop((l1 d L ↦[(vRowRect t).set]{fullShare} gath d L cF ev j)
    ∗ (lev d L ↦[(evRowRect (wd d L cF j t) (wd_inb d L cF hcF j t)).set]{Transfers.shareTokN q t.val} ev))

instance Dv_storable (j : Fin 8) (t : Fin 64) : BI.Storable (upEmb : UEmb _ 𝕄) (Dv d L cF hcF ev q j t) := by
  unfold Dv; infer_instance

/-- Chunk `j`'s batch on the gather semaphore: `k` copies issued, `u` units consumed. -/
abbrev batch (j : Fin 8) (k u : ℕ) : sProp 𝕄 :=
  Transfers.Batch (countersEmb (U := UU)) (thr d L) (.dma cc1_scratch4.sem) (none : HIx 2) NR (Dv d L cF hcF ev q j) k u

/-- Row `t` of the scratch owned at some contents; read token `t` whole; what token `t` keeps while its row is lent. -/
abbrev rowOwn (t : Fin 64) : sProp 𝕄 := iprop(∃ f, (vRow t).view.loc (thr d L) ↦[(vRow t).view.set]{fullShare} f)
abbrev tok (t : Fin 64) : sProp 𝕄 := (evW).view.loc (thr d L) ↦[(evW).view.set]{Transfers.shareTokN q t.val} ev
abbrev tokRest (j : Fin 8) (t : Fin 64) : sProp 𝕄 :=
  (evW).view.loc (thr d L) ↦[(evW).view.set \ (evRow (wd d L cF j t) (wd_inb d L cF hcF j t)).view.set]{Transfers.shareTokN q t.val} ev

/-- Before trip `g` of chunk `j`'s issue loop: `16g` copies issued and none waited for; the index scratch; the rows
    and tokens from `16g` on still in hand; what the tokens before `16g` keep. -/
def issueAt (j : Fin 8) (g : ℕ) (_ : Unit) : sProp 𝕄 :=
  iprop(batch d L cF hcF ev q j (16 * g) 0
    ∗ ((s0).view.loc (thr d L) ↦{fullShare} cF)
    ∗ bigSep (Ring.rangeSet 64 (16 * g) 64) (rowOwn d L)
    ∗ bigSep (Ring.rangeSet 64 (16 * g) 64) (tok d L ev q)
    ∗ bigSep (Ring.rangeSet 64 0 (16 * g)) (tokRest d L cF hcF ev q j))

end Cert.Proof.TileVInv

end
-- ==== Proof.TileVDrain.lean ====
/-
  The drain of one chunk's gather. After the 64 row copies of a chunk have been issued on the one gather
  semaphore, the kernel waits 64 times, each wait for one row's amount; no row is read in between. Before the
  k-th wait the batch has had k rows' units consumed; the last wait empties the semaphore and hands every
  delivery back at once: each scratch row at the table row it was copied from, beside that row's read share.
-/
import proofs.«218857_g62938450756068_cont_9to1c4b_813_41_alg».proof.Proof.TileVInv

noncomputable section

namespace Cert.Proof.TileVDrain

open Cert.KernelIdeal Cert.KernelIdeal.Gen Cert.Proof.KernelIdealBase Cert.Proof.TileVDefs Cert.Proof.TileVMem Cert.Proof.TileVInv

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (L : grid1.Coords)
variable (cF : Buf (Elt F) (l0 d L)) (hcF : ∀ x : S512.Idx, ((cF : S512.Idx → BitVec 32) x).toNat < 1000000)
variable (ev : Buf (Elt F) (lev d L)) (q : PosShare TreeShare)

/-- One row's credit on the gather semaphore is 2048 units. -/
theorem NR_eq : NR = 2048 := rfl

/-- Before the k-th wait of chunk j's drain: k ≤ 64; the subcore may wait; the waits so far recorded; and either
    (k < 64) the batch of 64 issued copies with k rows' units consumed, or (k = 64) the semaphore at zero and
    every delivery. -/
def drainAt (j : Fin 8) (O : CellTallies nD τ sig (HIx 2)) (W : Waits sig (HIx 2)) (k : ℕ) (_ : Unit) : sProp 𝕄 :=
  iprop(⌜k ≤ 64⌝ ∗ Transfers.MayWaits (thr d L) (none : HIx 2) O
    ∗ (∃ W', ⌜∀ p ∈ W', p ∈ W ∨ p.2 = none⌝ ∗ owes (thr d L) O W')
    ∗ (if k < 64 then batch d L cF hcF ev q j 64 (k * NR)
       else iprop(semVal (thr d L, SemLoc.dma cc1_scratch4.sem) 0 ∗ bigSep Finset.univ (Dv d L cF hcF ev q j))))

/-- One wait of chunk 0's drain at a symbolic k: before the last (k + 1 < 64) it only consumes a row's units; the
    last (k + 1 = 64) empties the semaphore and hands back every delivery. -/
theorem drain_step0 [∀ e, Nonempty (Elt F e)] (O : CellTallies nD τ sig (HIx 2)) (W : Waits sig (HIx 2))
    (k : Fin k1_t2_loop.trips) (acc : Unit) :
    drainAt d L cF hcF ev q 0 O W k.val acc
      ⊢ wp frame (wpE (defs₀ (F := F)) 𝒱₀ (thr d L) none) Set.univ
          (k1_t2_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 k acc)
          (drainAt d L cF hcF ev q 0 O W (k.val + 1)) := by
  have hk : k.val < 64 := k.isLt
  unfold drainAt
  simp only [if_pos hk]
  rcases Nat.lt_or_ge (k.val + 1) 64 with h1 | h1
  · simp only [if_pos h1]
    rw [NR_eq]
    iintro ⟨-, Hmw, ⟨%W', %hW', HO⟩, HB⟩
    sl_unfold [k1_t2_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    rw [show (k.val + 1) * 2048 = k.val * 2048 + 2048 by omega]
    iexact HB
  · simp only [if_neg (Nat.not_lt.mpr h1)]
    rw [NR_eq]
    iintro ⟨-, Hmw, ⟨%W', %hW', HO⟩, HB⟩
    sl_unfold [k1_t2_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    isplitl [HB]; · iexact HB
    iexact HB_all

/-- One wait of chunk 1's drain at a symbolic k: before the last (k + 1 < 64) it only consumes a row's units; the
    last (k + 1 = 64) empties the semaphore and hands back every delivery. -/
theorem drain_step1 [∀ e, Nonempty (Elt F e)] (O : CellTallies nD τ sig (HIx 2)) (W : Waits sig (HIx 2))
    (v2 c0 : BitVec 32) (k : Fin k1_t5_loop.trips) (acc : Unit) :
    drainAt d L cF hcF ev q 1 O W k.val acc
      ⊢ wp frame (wpE (defs₀ (F := F)) 𝒱₀ (thr d L) none) Set.univ
          (k1_t5_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 c0 k acc)
          (drainAt d L cF hcF ev q 1 O W (k.val + 1)) := by
  have hk : k.val < 64 := k.isLt
  unfold drainAt
  simp only [if_pos hk]
  rcases Nat.lt_or_ge (k.val + 1) 64 with h1 | h1
  · simp only [if_pos h1]
    rw [NR_eq]
    iintro ⟨-, Hmw, ⟨%W', %hW', HO⟩, HB⟩
    sl_unfold [k1_t5_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    rw [show (k.val + 1) * 2048 = k.val * 2048 + 2048 by omega]
    iexact HB
  · simp only [if_neg (Nat.not_lt.mpr h1)]
    rw [NR_eq]
    iintro ⟨-, Hmw, ⟨%W', %hW', HO⟩, HB⟩
    sl_unfold [k1_t5_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    isplitl [HB]; · iexact HB
    iexact HB_all

/-- One wait of chunk 2's drain at a symbolic k: before the last (k + 1 < 64) it only consumes a row's units; the
    last (k + 1 = 64) empties the semaphore and hands back every delivery. -/
theorem drain_step2 [∀ e, Nonempty (Elt F e)] (O : CellTallies nD τ sig (HIx 2)) (W : Waits sig (HIx 2))
    (v2 c0 : BitVec 32) (k : Fin k1_t8_loop.trips) (acc : Unit) :
    drainAt d L cF hcF ev q 2 O W k.val acc
      ⊢ wp frame (wpE (defs₀ (F := F)) 𝒱₀ (thr d L) none) Set.univ
          (k1_t8_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 c0 k acc)
          (drainAt d L cF hcF ev q 2 O W (k.val + 1)) := by
  have hk : k.val < 64 := k.isLt
  unfold drainAt
  simp only [if_pos hk]
  rcases Nat.lt_or_ge (k.val + 1) 64 with h1 | h1
  · simp only [if_pos h1]
    rw [NR_eq]
    iintro ⟨-, Hmw, ⟨%W', %hW', HO⟩, HB⟩
    sl_unfold [k1_t8_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    rw [show (k.val + 1) * 2048 = k.val * 2048 + 2048 by omega]
    iexact HB
  · simp only [if_neg (Nat.not_lt.mpr h1)]
    rw [NR_eq]
    iintro ⟨-, Hmw, ⟨%W', %hW', HO⟩, HB⟩
    sl_unfold [k1_t8_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    isplitl [HB]; · iexact HB
    iexact HB_all

/-- One wait of chunk 3's drain at a symbolic k: before the last (k + 1 < 64) it only consumes a row's units; the
    last (k + 1 = 64) empties the semaphore and hands back every delivery. -/
theorem drain_step3 [∀ e, Nonempty (Elt F e)] (O : CellTallies nD τ sig (HIx 2)) (W : Waits sig (HIx 2))
    (v2 : BitVec 32) (k : Fin k1_t11_loop.trips) (acc : Unit) :
    drainAt d L cF hcF ev q 3 O W k.val acc
      ⊢ wp frame (wpE (defs₀ (F := F)) 𝒱₀ (thr d L) none) Set.univ
          (k1_t11_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 k acc)
          (drainAt d L cF hcF ev q 3 O W (k.val + 1)) := by
  have hk : k.val < 64 := k.isLt
  unfold drainAt
  simp only [if_pos hk]
  rcases Nat.lt_or_ge (k.val + 1) 64 with h1 | h1
  · simp only [if_pos h1]
    rw [NR_eq]
    iintro ⟨-, Hmw, ⟨%W', %hW', HO⟩, HB⟩
    sl_unfold [k1_t11_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    rw [show (k.val + 1) * 2048 = k.val * 2048 + 2048 by omega]
    iexact HB
  · simp only [if_neg (Nat.not_lt.mpr h1)]
    rw [NR_eq]
    iintro ⟨-, Hmw, ⟨%W', %hW', HO⟩, HB⟩
    sl_unfold [k1_t11_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    isplitl [HB]; · iexact HB
    iexact HB_all

/-- One wait of chunk 4's drain at a symbolic k: before the last (k + 1 < 64) it only consumes a row's units; the
    last (k + 1 = 64) empties the semaphore and hands back every delivery. -/
theorem drain_step4 [∀ e, Nonempty (Elt F e)] (O : CellTallies nD τ sig (HIx 2)) (W : Waits sig (HIx 2))
    (v2 : BitVec 32) (k : Fin k1_t14_loop.trips) (acc : Unit) :
    drainAt d L cF hcF ev q 4 O W k.val acc
      ⊢ wp frame (wpE (defs₀ (F := F)) 𝒱₀ (thr d L) none) Set.univ
          (k1_t14_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 k acc)
          (drainAt d L cF hcF ev q 4 O W (k.val + 1)) := by
  have hk : k.val < 64 := k.isLt
  unfold drainAt
  simp only [if_pos hk]
  rcases Nat.lt_or_ge (k.val + 1) 64 with h1 | h1
  · simp only [if_pos h1]
    rw [NR_eq]
    iintro ⟨-, Hmw, ⟨%W', %hW', HO⟩, HB⟩
    sl_unfold [k1_t14_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    rw [show (k.val + 1) * 2048 = k.val * 2048 + 2048 by omega]
    iexact HB
  · simp only [if_neg (Nat.not_lt.mpr h1)]
    rw [NR_eq]
    iintro ⟨-, Hmw, ⟨%W', %hW', HO⟩, HB⟩
    sl_unfold [k1_t14_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    isplitl [HB]; · iexact HB
    iexact HB_all

/-- One wait of chunk 5's drain at a symbolic k: before the last (k + 1 < 64) it only consumes a row's units; the
    last (k + 1 = 64) empties the semaphore and hands back every delivery. -/
theorem drain_step5 [∀ e, Nonempty (Elt F e)] (O : CellTallies nD τ sig (HIx 2)) (W : Waits sig (HIx 2))
    (v2 : BitVec 32) (k : Fin k1_t17_loop.trips) (acc : Unit) :
    drainAt d L cF hcF ev q 5 O W k.val acc
      ⊢ wp frame (wpE (defs₀ (F := F)) 𝒱₀ (thr d L) none) Set.univ
          (k1_t17_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 k acc)
          (drainAt d L cF hcF ev q 5 O W (k.val + 1)) := by
  have hk : k.val < 64 := k.isLt
  unfold drainAt
  simp only [if_pos hk]
  rcases Nat.lt_or_ge (k.val + 1) 64 with h1 | h1
  · simp only [if_pos h1]
    rw [NR_eq]
    iintro ⟨-, Hmw, ⟨%W', %hW', HO⟩, HB⟩
    sl_unfold [k1_t17_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    rw [show (k.val + 1) * 2048 = k.val * 2048 + 2048 by omega]
    iexact HB
  · simp only [if_neg (Nat.not_lt.mpr h1)]
    rw [NR_eq]
    iintro ⟨-, Hmw, ⟨%W', %hW', HO⟩, HB⟩
    sl_unfold [k1_t17_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    isplitl [HB]; · iexact HB
    iexact HB_all

/-- One wait of chunk 6's drain at a symbolic k: before the last (k + 1 < 64) it only consumes a row's units; the
    last (k + 1 = 64) empties the semaphore and hands back every delivery. -/
theorem drain_step6 [∀ e, Nonempty (Elt F e)] (O : CellTallies nD τ sig (HIx 2)) (W : Waits sig (HIx 2))
    (v2 : BitVec 32) (k : Fin k1_t20_loop.trips) (acc : Unit) :
    drainAt d L cF hcF ev q 6 O W k.val acc
      ⊢ wp frame (wpE (defs₀ (F := F)) 𝒱₀ (thr d L) none) Set.univ
          (k1_t20_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 k acc)
          (drainAt d L cF hcF ev q 6 O W (k.val + 1)) := by
  have hk : k.val < 64 := k.isLt
  unfold drainAt
  simp only [if_pos hk]
  rcases Nat.lt_or_ge (k.val + 1) 64 with h1 | h1
  · simp only [if_pos h1]
    rw [NR_eq]
    iintro ⟨-, Hmw, ⟨%W', %hW', HO⟩, HB⟩
    sl_unfold [k1_t20_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    rw [show (k.val + 1) * 2048 = k.val * 2048 + 2048 by omega]
    iexact HB
  · simp only [if_neg (Nat.not_lt.mpr h1)]
    rw [NR_eq]
    iintro ⟨-, Hmw, ⟨%W', %hW', HO⟩, HB⟩
    sl_unfold [k1_t20_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    isplitl [HB]; · iexact HB
    iexact HB_all

/-- One wait of chunk 7's drain at a symbolic k: before the last (k + 1 < 64) it only consumes a row's units; the
    last (k + 1 = 64) empties the semaphore and hands back every delivery. -/
theorem drain_step7 [∀ e, Nonempty (Elt F e)] (O : CellTallies nD τ sig (HIx 2)) (W : Waits sig (HIx 2))
    (k : Fin k1_t23_loop.trips) (acc : Unit) :
    drainAt d L cF hcF ev q 7 O W k.val acc
      ⊢ wp frame (wpE (defs₀ (F := F)) 𝒱₀ (thr d L) none) Set.univ
          (k1_t23_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 k acc)
          (drainAt d L cF hcF ev q 7 O W (k.val + 1)) := by
  have hk : k.val < 64 := k.isLt
  unfold drainAt
  simp only [if_pos hk]
  rcases Nat.lt_or_ge (k.val + 1) 64 with h1 | h1
  · simp only [if_pos h1]
    rw [NR_eq]
    iintro ⟨-, Hmw, ⟨%W', %hW', HO⟩, HB⟩
    sl_unfold [k1_t23_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    rw [show (k.val + 1) * 2048 = k.val * 2048 + 2048 by omega]
    iexact HB
  · simp only [if_neg (Nat.not_lt.mpr h1)]
    rw [NR_eq]
    iintro ⟨-, Hmw, ⟨%W', %hW', HO⟩, HB⟩
    sl_unfold [k1_t23_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    isplitl [HB]; · iexact HB
    iexact HB_all

/-! ## Every delivery back: the gathered rows whole, the table's read tokens whole -/

/-- A table row as the copy's source spells it has the row's rectangle as its element set. -/
theorem set_evRow' (v : BitVec 32) (h : ∀ a, (![v.toNat, 0] : Fin 2 → ℕ) a + S1x64.size a ≤ S1000000x64.size a) :
    (evRow v h).view.set = (evRowRect v h).set := by
  unfold evRow
  show (((View.whole (main_arg3_scv : Ref sig .scVector)).slice _).reshape S64 _).set = _
  rw [View.set_reshape, View.set_slice_whole]

/-- Once the last wait has handed every delivery back: the 64 landed rows are the gathered-rows scratch whole at
    chunk j's rows, and each read token's lent row rejoins what the token kept. -/
theorem collect [∀ e, Nonempty (Elt F e)] (j : Fin 8) :
    iprop(bigSep Finset.univ (Dv d L cF hcF ev q j) ∗ bigSep (Ring.rangeSet 64 0 64) (tokRest d L cF hcF ev q j))
      ⊢ iprop((l1 d L ↦{fullShare} gath d L cF ev j)
          ∗ bigSep (Finset.range 64) (fun t => lev d L ↦{Transfers.shareTokN q t} ev)) := by
  rw [Ring.rangeSet_univ]
  iintro ⟨HD, HR⟩
  ihave HD' := (show bigSep Finset.univ (Dv d L cF hcF ev q j)
      ⊢ iprop(bigSep Finset.univ (fun t : Fin 64 => (l1 d L ↦[(vRowRect t).set]{fullShare} gath d L cF ev j : sProp 𝕄))
        ∗ bigSep Finset.univ (fun t : Fin 64 =>
            (lev d L ↦[(evRowRect (wd d L cF j t) (wd_inb d L cF hcF j t)).set]{Transfers.shareTokN q t.val} ev : sProp 𝕄)))
    from Entails.of_eq (BI.bigSep_sep _ _ _)) $$ HD
  icases HD' with ⟨HA, HBs⟩
  isplitl [HA]
  · iapply (Entails.of_eq ((pointsTo_biUnion (ℓ := l1 d L) (q := fullShare) (f := gath d L cF ev j) Finset.univ
      (fun t : Fin 64 => (vRowRect t).set) vRowRect_disjoint).symm.trans (by rw [vRowRect_cover])))
    iexact HA
  · ihave H := (show iprop(bigSep Finset.univ (fun t : Fin 64 =>
            (lev d L ↦[(evRowRect (wd d L cF j t) (wd_inb d L cF hcF j t)).set]{Transfers.shareTokN q t.val} ev : sProp 𝕄))
          ∗ bigSep Finset.univ (tokRest d L cF hcF ev q j))
        ⊢ bigSep Finset.univ (fun t : Fin 64 =>
            iprop((lev d L ↦[(evRowRect (wd d L cF j t) (wd_inb d L cF hcF j t)).set]{Transfers.shareTokN q t.val} ev : sProp 𝕄)
              ∗ tokRest d L cF hcF ev q j t))
      from Entails.of_eq (BI.bigSep_sep _ _ _).symm) $$ [HBs HR]
    · isplitl [HBs] <;> iassumption
    iapply (Entails.of_eq (Ring.bigSep_fin_eq_range 64 (fun t : Fin 64 => (lev d L ↦{Transfers.shareTokN q t.val} ev : sProp 𝕄))
      (fun t => (lev d L ↦{Transfers.shareTokN q t} ev : sProp 𝕄)) (fun t h => rfl)))
    iapply (show bigSep Finset.univ (fun t : Fin 64 =>
            iprop((lev d L ↦[(evRowRect (wd d L cF j t) (wd_inb d L cF hcF j t)).set]{Transfers.shareTokN q t.val} ev : sProp 𝕄)
              ∗ tokRest d L cF hcF ev q j t))
        ⊢ bigSep Finset.univ (fun t : Fin 64 => (lev d L ↦{Transfers.shareTokN q t.val} ev : sProp 𝕄))
      from BI.bigSep_mono fun t _ => by
        have hS : (evW).view.set = (Finset.univ : Finset S1000000x64.Idx) := (Memref.isWhole_whole _).set_eq_univ
        unfold tokRest
        rw [set_evRow', hS]
        exact (pointsTo_split_subset (ℓ := lev d L) (q := Transfers.shareTokN q t.val) (f := ev)
          (I := (evRowRect (wd d L cF j t) (wd_inb d L cF hcF j t)).set) (S := Finset.univ) (Finset.subset_univ _)).2)
    iexact H

end Cert.Proof.TileVDrain

end
-- ==== Proof.TileVScratch.lean ====
/-
  A vector subcore's own scratch for the second kernel: its four buffers and its eleven DMA semaphores, taken out
  of everything the subcore owns (and put back by the same equations).
-/
import proofs.«218857_g62938450756068_cont_9to1c4b_813_41_alg».proof.Proof.TileVDefs

noncomputable section

namespace Cert.Proof.TileVScratch

open Cert.KernelIdeal Cert.KernelIdeal.Gen Cert.Proof.KernelIdealBase

open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-- The kernel's gather semaphore and the ten of its scoped regions. -/
def semsV : Finset (DmaSem sig) :=
  {cc1_scratch4.sem, cc1_scoped0.sem, cc1_scoped1.sem, cc1_scoped2.sem, cc1_scoped3.sem, cc1_scoped4.sem, cc1_scoped5.sem,
    cc1_scoped6.sem, cc1_scoped7.sem, cc1_scoped8.sem, cc1_scoped9.sem}

/-- A subcore's cell of a DMA semaphore. -/
def cellOf (thr : Thread nD τ) : DmaSem sig ↪ GSem nD τ sig :=
  ⟨fun s => (thr, SemLoc.dma s), fun a b h => by
    have h2 : (SemLoc.dma a : SemLoc sig) = SemLoc.dma b := congrArg Prod.snd h
    injection h2⟩

theorem semsV_scoped : ∀ s ∈ semsV, sig.isScopedDmaSem .scVector s = true := by decide

theorem semsV_sub (d : Dev nD) (c : Fin τ.nSC) (i : Fin τ.nSub) : semsV.map (cellOf (V d c i)) ⊆ ownCells (V d c i) := by
  intro g hg
  obtain ⟨s, hs, rfl⟩ := Finset.mem_map.mp hg
  exact mem_ownCells.mpr ⟨rfl, semsV_scoped s hs⟩

theorem bigSep_semsV (Φ : DmaSem sig → sProp 𝕄) :
    bigSep semsV Φ = iprop(Φ cc1_scratch4.sem ∗ Φ cc1_scoped0.sem ∗ Φ cc1_scoped1.sem ∗ Φ cc1_scoped2.sem ∗ Φ cc1_scoped3.sem ∗ Φ cc1_scoped4.sem
      ∗ Φ cc1_scoped5.sem ∗ Φ cc1_scoped6.sem ∗ Φ cc1_scoped7.sem ∗ Φ cc1_scoped8.sem ∗ Φ cc1_scoped9.sem) := by
  unfold semsV
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The subcore's semaphores at zero: the eleven, and the rest. -/
theorem ownSems0_V (d : Dev nD) (c : Fin τ.nSC) (i : Fin τ.nSub) :
    (ownSems0 (V d c i) : sProp 𝕄)
      = iprop(bigSep semsV (fun s => semVal ((V d c i, SemLoc.dma s) : GSem nD τ sig) 0)
          ∗ bigSep (ownCells (V d c i) \ semsV.map (cellOf (V d c i))) fun g => semVal g 0) := by
  unfold SparseCore.Cfg.ownSems0
  rw [SparseCore.bigSep_sdiff_split' (semsV_sub d c i), BI.bigSep_map]
  rfl

/-- The four scratch buffers. -/
def bufsV : Finset (Ref sig .scVector) := {cc1_scratch0, cc1_scratch1, cc1_scratch2, cc1_scratch3}

def refOf (c : Fin τ.nSC) (i : Fin τ.nSub) : Ref sig .scVector ↪ DevRef τ sig :=
  ⟨(Proc.scVector c i).devRef, Proc.devRef_injective _⟩

theorem bufsV_sub (c : Fin τ.nSC) (i : Fin τ.nSub) : bufsV.map (refOf c i) ⊆ ownRefs (τ := τ) (sig := sig) (.scVector c i) := by
  intro b hb
  obtain ⟨r, hr, rfl⟩ := Finset.mem_map.mp hb
  have : ∀ r ∈ bufsV, ((Proc.scVector c i).devRef r).owner = .proc (Proc.scVector c i) := by
    intro r hr
    simp only [bufsV, Finset.mem_insert, Finset.mem_singleton] at hr
    rcases hr with rfl | rfl | rfl | rfl <;> rfl
  exact SparseCore.Cfg.mem_ownRefs_of_owner (this r hr)

theorem bigSep_bufsV (Φ : Ref sig .scVector → sProp 𝕄) :
    bigSep bufsV Φ = iprop(Φ cc1_scratch0 ∗ Φ cc1_scratch1 ∗ Φ cc1_scratch2 ∗ Φ cc1_scratch3) := by
  unfold bufsV
  rw [SparseCore.bigSep_insert' (by decide), SparseCore.bigSep_insert' (by decide), SparseCore.bigSep_insert' (by decide),
    bigSep_singleton]

/-- The subcore's buffers: the four scratch buffers at some contents, and the rest. -/
theorem ownBufs_V (d : Dev nD) (c : Fin τ.nSC) (i : Fin τ.nSub) :
    (ownBufs (V d c i) : sProp 𝕄)
      = iprop(bigSep bufsV (fun r => iprop(∃ f, (V d c i).loc r ↦{fullShare} f))
          ∗ bigSep (ownRefs (τ := τ) (sig := sig) (.scVector c i) \ bufsV.map (refOf c i)) fun b => iprop(∃ f, ((d, b) : Loc nD τ sig) ↦{fullShare} f)) := by
  unfold SparseCore.Cfg.ownBufs
  rw [SparseCore.bigSep_sdiff_split' (bufsV_sub c i), BI.bigSep_map]
  rfl

end Cert.Proof.TileVScratch

end
-- ==== Proof.TileV.lean ====
/-
  The second SparseCore kernel on one vector subcore, assembled from its loops.

  The kernel copies the subcore's 512 centre words into its index scratch, then works through eight chunks of 64
  batch elements: it copies the chunk's 64 context rows into a scratch, starts 64 copies of the table rows named
  by the chunk's centre words into the gathered-rows scratch — all on one semaphore —, waits 64 times, and then
  for each element multiplies the four 16-lane pieces of its two rows and adds them, storing 16 partial products.
  At the end the 8192 partial products are copied out to the subcore's slice of the result.
-/
import proofs.«218857_g62938450756068_cont_9to1c4b_813_41_alg».proof.Proof.TileVDrain
import proofs.«218857_g62938450756068_cont_9to1c4b_813_41_alg».proof.Proof.TileVScratch
import proofs.«218857_g62938450756068_cont_9to1c4b_813_41_alg».proof.Proof.KernelIdealBodies

noncomputable section

namespace Cert.Proof.TileV

open Cert.KernelIdeal Cert.KernelIdeal.Gen Cert.Proof.KernelIdealBase Cert.Proof.KernelIdealBodies
open Cert.Proof.TileVDefs Cert.Proof.TileVMem Cert.Proof.TileVInv Cert.Proof.TileVDrain Cert.Proof.TileVScratch

open Idealize.ShloMosaic
open Idealize.ShloMosaic.ValueIdx
open Idealize.ShloMosaic.SparseCore (S V T)
open Idealize.ShloMosaic.SparseCore.Cfg (HIx Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

/-! ## The arrays as the subcore's memrefs address them -/

omit [FloatOps F] in
theorem pts_center (d : Dev nD) (L : grid1.Coords) (f : Buf (Elt F) (centerLoc d)) :
    ((centerK L).view.loc (thr d L) ↦[(centerK L).view.set]{fullShare} f : sProp 𝕄)
      = (centerLoc d ↦[centerSlice (wL L)]{fullShare} f) := by
  rw [set_centerK_rect, centerKRect_set]; rfl

omit [FloatOps F] in
theorem pts_ppos (d : Dev nD) (L : grid1.Coords) (f : Buf (Elt F) (pposLoc d)) :
    ((pposK L).view.loc (thr d L) ↦[(pposK L).view.set]{fullShare} f : sProp 𝕄)
      = (pposLoc d ↦[pposSlice (wL L)]{fullShare} f) := by
  rw [set_pposK_rect, pposKRect_set]; rfl

omit [FloatOps F] in
theorem pts_urows (d : Dev nD) (L : grid1.Coords) (f : Buf (Elt F) (urowsLoc d)) :
    (urowsLoc d ↦[urowsSlice (wL L)]{fullShare} f : sProp 𝕄)
      = bigSep Finset.univ fun j : Fin 8 => ((urowsK L j).view.loc (thr d L) ↦[(urowsK L j).view.set]{fullShare} f : sProp 𝕄) := by
  rw [← urowsKRect_cover, pointsTo_biUnion Finset.univ _ (urowsKRect_disjoint L)]
  refine bigSep_congr fun j _ => ?_
  rw [set_urowsK_rect]; rfl

omit [FloatOps F] in
theorem pts_ev (d : Dev nD) (L : grid1.Coords) (q : PosShare TreeShare) (f : Buf (Elt F) (evLoc d)) :
    ((evW).view.loc (thr d L) ↦[(evW).view.set]{q} f : sProp 𝕄) = (evLoc d ↦{q} f) := by
  simp only [Memref.view_whole, View.set_whole]

omit [FloatOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
theorem pts_s0 (d : Dev nD) (L : grid1.Coords) (f : Buf (Elt F) ((thr d L).loc cc1_scratch0)) :
    ((s0).view.loc (thr d L) ↦{fullShare} f : sProp 𝕄) = ((thr d L).loc cc1_scratch0 ↦{fullShare} f) := by
  simp only [Memref.view_whole, View.set_whole]
omit [FloatOps F] in
theorem pts_s1 (d : Dev nD) (L : grid1.Coords) (f : Buf (Elt F) ((thr d L).loc cc1_scratch1)) :
    ((s1).view.loc (thr d L) ↦{fullShare} f : sProp 𝕄) = ((thr d L).loc cc1_scratch1 ↦{fullShare} f) := by
  simp only [Memref.view_whole, View.set_whole]
omit [FloatOps F] in
theorem pts_s2 (d : Dev nD) (L : grid1.Coords) (f : Buf (Elt F) ((thr d L).loc cc1_scratch2)) :
    ((s2).view.loc (thr d L) ↦{fullShare} f : sProp 𝕄) = ((thr d L).loc cc1_scratch2 ↦{fullShare} f) := by
  simp only [Memref.view_whole, View.set_whole]
omit [FloatOps F] in
theorem pts_s3 (d : Dev nD) (L : grid1.Coords) (f : Buf (Elt F) ((thr d L).loc cc1_scratch3)) :
    ((s3).view.loc (thr d L) ↦{fullShare} f : sProp 𝕄) = ((thr d L).loc cc1_scratch3 ↦{fullShare} f) := by
  simp only [Memref.view_whole, View.set_whole]

/-- The subcore's centre words read through its slice are the centre words at 512w + j. -/
theorem center_inb (L : grid1.Coords) (j : S512.Idx) : 512 * (wL L).val + (j 0).val < 16384 := by
  have h1 : (j 0).val < 512 := (j 0).isLt
  have h2 := (wL L).isLt; omega

omit [FloatOps F] in
theorem read_centerK (d : Dev nD) (L : grid1.Coords) (f : Buf (Elt F) (centerLoc d)) (j : S512.Idx) :
    ((cW).slice (centerKRect L) (fun _ => rfl)).view.read (Elt F) f j
      = (f : S16384.Idx → BitVec 32) (ix1 ⟨512 * (wL L).val + (j 0).val, center_inb L j⟩) := by
  rw [View.read_apply]
  show (f : S16384.Idx → BitVec 32) ((centerKRect L).emb j) = _
  congr 1; funext a
  match a with
  | ⟨0, _⟩ =>
    apply Fin.ext
    show (k1_off1 L) 0 + 1 * (j 0).val = 512 * (wL L).val + (j 0).val
    rw [k1_off1_eq, wL_val]; simp only [Matrix.cons_val_zero]; omega

/-! ## Glue: the gathered-rows scratch as its 64 rows, the table's share as 64 read tokens -/

variable (d : Dev nD) (L : grid1.Coords)

omit [FloatOps F] in
/-- The gathered-rows scratch held whole is its 64 rows, each owned. -/
theorem rows_split [∀ e, Nonempty (Elt F e)] (g : Buf (Elt F) ((thr d L).loc cc1_scratch1)) :
    ((s1).view.loc (thr d L) ↦{fullShare} g : sProp 𝕄) ⊢ bigSep (Ring.rangeSet 64 0 64) (rowOwn d L) := by
  rw [pts_s1, Ring.rangeSet_univ]
  refine (Entails.of_eq ((congrArg (fun S => (l1 d L ↦[S]{fullShare} g : sProp 𝕄)) vRowRect_cover.symm).trans
    (pointsTo_biUnion (ℓ := l1 d L) (q := fullShare) (f := g) Finset.univ (fun t : Fin 64 => (vRowRect t).set) vRowRect_disjoint))).trans
    (BI.bigSep_mono fun t _ => ?_)
  show (l1 d L ↦[(vRowRect t).set]{fullShare} g : sProp 𝕄) ⊢ rowOwn d L t
  unfold rowOwn
  rw [set_vRow]
  iintro H; iexists g; iexact H

omit [FloatOps F] in
/-- The table's read share as 64 read tokens and what is left. -/
theorem toks_split (ev : Buf (Elt F) (lev d L)) (q : PosShare TreeShare) :
    ((evW).view.loc (thr d L) ↦[(evW).view.set]{q} ev : sProp 𝕄)
      ⊣⊢ iprop(((evW).view.loc (thr d L) ↦[(evW).view.set]{Transfers.shareDrop q 64} ev)
          ∗ bigSep (Ring.rangeSet 64 0 64) (tok d L ev q)) := by
  have e : bigSep (Ring.rangeSet 64 0 64) (tok d L ev q)
      = bigSep (Finset.range 64) (fun t => ((evW).view.loc (thr d L) ↦[(evW).view.set]{Transfers.shareTokN q t} ev : sProp 𝕄)) := by
    rw [Ring.bigSep_rangeSet_eq_range (NB := 64) (lo := 0) (hi := 64) (Φ := tok d L ev q) le_rfl
      (fun t => ((evW).view.loc (thr d L) ↦[(evW).view.set]{Transfers.shareTokN q t} ev : sProp 𝕄))
      (fun k hk => by simp only [Nat.zero_add])]
  rw [e]
  exact Transfers.pointsTo_toks_range q 64

/-! ## What the element loops maintain -/

theorem ppos_inb (L : grid1.Coords) (x : S8192.Idx) : 8192 * (wL L).val + (x 0).val < 262144 := by
  have h1 : (x 0).val < 8192 := (x 0).isLt
  have h2 := (wL L).isLt; omega

theorem urow_inb (L : grid1.Coords) (j : Fin 8) (y : S64x64.Idx) : 512 * (wL L).val + 64 * j.val + (y 0).val < 16384 := by
  have h1 : (y 0).val < 64 := (y 0).isLt
  have h2 := (wL L).isLt; have h3 := j.isLt; omega

variable (d : Dev nD) (L : grid1.Coords)

/-- The index scratch holds the subcore's centre words. -/
def CenOK (cF : Buf (Elt F) (l0 d L)) : Prop :=
  ∀ x : S512.Idx, (cF : S512.Idx → BitVec 32) x = (m (centerLoc d) : S16384.Idx → BitVec 32) (ix1 ⟨512 * (wL L).val + (x 0).val, center_inb L x⟩)

/-- The context-rows scratch holds chunk j's rows of the context rows. -/
def UjOK (U : Buf (Elt F) (urowsLoc d)) (j : Fin 8) (Uj : Buf (Elt F) (l2 d L)) : Prop :=
  ∀ y : S64x64.Idx, (Uj : S64x64.Idx → F .f32) y
    = (U : S16384x64.Idx → F .f32) (ix2 ⟨512 * (wL L).val + 64 * j.val + (y 0).val, urow_inb L j y⟩ ⟨(y 1).val, (y 1).isLt⟩)

/-- The partial-products scratch is right below position n. -/
def okBelow (U : Buf (Elt F) (urowsLoc d)) (n : ℕ) (pf : Buf (Elt F) (l3 d L)) : Prop :=
  ∀ x : S8192.Idx, (x 0).val < n →
    (pf : S8192.Idx → F .f32) x = (pposF m d U : S262144.Idx → F .f32) (ix1 ⟨8192 * (wL L).val + (x 0).val, ppos_inb L x⟩)

omit [FloatOps F] in
/-- Chunk j's context rows read through the subcore's slice are rows 512w + 64j + y of the context rows. -/
theorem read_urowsK (d : Dev nD) (L : grid1.Coords) (f : Buf (Elt F) (urowsLoc d)) (j : Fin 8) (y : S64x64.Idx) :
    ((uW).slice (urowsKRect L j) (fun _ => rfl)).view.read (Elt F) f y
      = (f : S16384x64.Idx → F .f32) (ix2 ⟨512 * (wL L).val + 64 * j.val + (y 0).val, urow_inb L j y⟩ ⟨(y 1).val, (y 1).isLt⟩) := by
  rw [View.read_apply]
  show (f : S16384x64.Idx → F .f32) ((urowsKRect L j).emb y) = _
  congr 1; funext a
  match a with
  | ⟨0, _⟩ =>
    apply Fin.ext
    show (k1_off2 L (BitVec.ofNat 32 (64 * j.val))) 0 + 1 * (y 0).val = 512 * (wL L).val + 64 * j.val + (y 0).val
    rw [k1_off2_eq L j, wL_val]; simp only [Matrix.cons_val_zero]; omega
  | ⟨1, _⟩ =>
    apply Fin.ext
    show (k1_off2 L (BitVec.ofNat 32 (64 * j.val))) 1 + 1 * (y 1).val = (y 1).val
    rw [k1_off2_eq L j]; simp only [Matrix.cons_val_one, Matrix.cons_val_zero]; omega

/-- `collect` with both results spelt as the subcore's memrefs address them. -/
theorem collect' [∀ e, Nonempty (Elt F e)] (d : Dev nD) (L : grid1.Coords) (cF : Buf (Elt F) (l0 d L))
    (hcF : ∀ x : S512.Idx, ((cF : S512.Idx → BitVec 32) x).toNat < 1000000) (ev : Buf (Elt F) (lev d L)) (q : PosShare TreeShare) (j : Fin 8) :
    iprop(bigSep Finset.univ (Dv d L cF hcF ev q j) ∗ bigSep (Ring.rangeSet 64 0 64) (tokRest d L cF hcF ev q j))
      ⊢ iprop(((s1).view.loc (thr d L) ↦{fullShare} gath d L cF ev j) ∗ bigSep (Ring.rangeSet 64 0 64) (tok d L ev q)) := by
  refine (collect d L cF hcF ev q j).trans ?_
  have hS : (evW).view.set = (Finset.univ : Finset S1000000x64.Idx) := (Memref.isWhole_whole _).set_eq_univ
  have e : bigSep (Ring.rangeSet 64 0 64) (tok d L ev q)
      = bigSep (Finset.range 64) (fun t => (lev d L ↦{Transfers.shareTokN q t} ev : sProp 𝕄)) := by
    rw [Ring.bigSep_rangeSet_eq_range (NB := 64) (lo := 0) (hi := 64) (Φ := tok d L ev q) le_rfl
      (fun t => (lev d L ↦{Transfers.shareTokN q t} ev : sProp 𝕄))
      (fun k hk => by unfold tok; rw [hS]; simp only [Nat.zero_add])]
  rw [e, pts_s1]

omit [FloatOps F] in
/-- The subcore's partial products read through its slice are the partial products at 8192w + x. -/
theorem read_pposK (d : Dev nD) (L : grid1.Coords) (f : Buf (Elt F) (pposLoc d)) (x : S8192.Idx) :
    ((pW).slice (pposKRect L) (fun _ => rfl)).view.read (Elt F) f x
      = (f : S262144.Idx → F .f32) (ix1 ⟨8192 * (wL L).val + (x 0).val, ppos_inb L x⟩) := by
  rw [View.read_apply]
  show (f : S262144.Idx → F .f32) ((pposKRect L).emb x) = _
  congr 1; funext a
  match a with
  | ⟨0, _⟩ =>
    apply Fin.ext
    show (k1_off315 L) 0 + 1 * (x 0).val = 8192 * (wL L).val + (x 0).val
    rw [k1_off315_eq, wL_val]; simp only [Matrix.cons_val_zero]; omega

set_option maxHeartbeats 40000000 in
/-- THE SECOND KERNEL'S TASK ON ONE SUBCORE, from its loops' steps. Given, for each of the eight chunks, one trip of
    the issue loop (sixteen row copies started on the gather semaphore) and one trip of the element loop (an
    element's sixteen partial products stored) against their invariants, the kernel at symbolic grid coordinates
    takes what the call hands the subcore — its slices of the centre words, the context rows and the partial
    products, a read share of the table, its scratch buffers and semaphores — to the same with the slice of the
    partial products at its value. The two first copies bring in the subcore's centre words (which name table
    rows, by the bound on the index words) and chunk 0's context rows; per chunk the gathered-rows scratch is
    split into its rows and the table's share into 64 read tokens, the batch of 64 copies is allocated, issued,
    drained by 64 waits, and collected back into the scratch whole at the chunk's table rows and the share whole;
    the element loop then fills the chunk's 1024 partial products; the last copy writes the 8192 of them out. -/
theorem tile_body_v_of_steps [∀ e, Nonempty (Elt F e)] (U : Buf (Elt F) (urowsLoc d))
    (EA : Fin 8 → Buf (Elt F) (l0 d L) → Buf (Elt F) (lev d L) → Buf (Elt F) (l2 d L) → ℕ → Unit → sProp 𝕄)
    (hEAin : ∀ (j : Fin 8) (cF : Buf (Elt F) (l0 d L)) (Uj : Buf (Elt F) (l2 d L)) (pf : Buf (Elt F) (l3 d L)),
      CenOK m d L cF → UjOK d L U j Uj → okBelow m d L U (1024 * j.val) pf →
      iprop(((s1).view.loc (thr d L) ↦{fullShare} gath d L cF (m (evLoc d)) j) ∗ ((s2).view.loc (thr d L) ↦{fullShare} Uj)
          ∗ ((s3).view.loc (thr d L) ↦{fullShare} pf)) ⊢ EA j cF (m (evLoc d)) Uj 0 ())
    (hEAout : ∀ (j : Fin 8) (cF : Buf (Elt F) (l0 d L)) (Uj : Buf (Elt F) (l2 d L)) (acc : Unit),
      EA j cF (m (evLoc d)) Uj 64 acc ⊢ iprop(∃ pf : Buf (Elt F) (l3 d L), ⌜okBelow m d L U (1024 * (j.val + 1)) pf⌝
          ∗ ((s1).view.loc (thr d L) ↦{fullShare} gath d L cF (m (evLoc d)) j) ∗ ((s2).view.loc (thr d L) ↦{fullShare} Uj)
          ∗ ((s3).view.loc (thr d L) ↦{fullShare} pf)))
    (hissue0 : ∀ (cF : Buf (Elt F) (l0 d L)) (hcF : ∀ x : S512.Idx, ((cF : S512.Idx → BitVec 32) x).toNat < 1000000)
      (ev : Buf (Elt F) (lev d L)) (q : PosShare TreeShare) (g : Fin k1_t1_loop.trips) (acc : Unit),
      issueAt d L cF hcF ev q 0 g.val acc ⊢ wp frame (wpE (defs₀ (F := F)) 𝒱₀ (thr d L) none) Set.univ
        (k1_t1_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 g acc) (issueAt d L cF hcF ev q 0 (g.val + 1)))
    (hissue1 : ∀ (cF : Buf (Elt F) (l0 d L)) (hcF : ∀ x : S512.Idx, ((cF : S512.Idx → BitVec 32) x).toNat < 1000000)
      (ev : Buf (Elt F) (lev d L)) (q : PosShare TreeShare) (v2 c0 : BitVec 32) (g : Fin k1_t4_loop.trips) (acc : Unit),
      issueAt d L cF hcF ev q 1 g.val acc ⊢ wp frame (wpE (defs₀ (F := F)) 𝒱₀ (thr d L) none) Set.univ
        (k1_t4_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 c0 g acc) (issueAt d L cF hcF ev q 1 (g.val + 1)))
    (hissue2 : ∀ (cF : Buf (Elt F) (l0 d L)) (hcF : ∀ x : S512.Idx, ((cF : S512.Idx → BitVec 32) x).toNat < 1000000)
      (ev : Buf (Elt F) (lev d L)) (q : PosShare TreeShare) (v2 c0 : BitVec 32) (g : Fin k1_t7_loop.trips) (acc : Unit),
      issueAt d L cF hcF ev q 2 g.val acc ⊢ wp frame (wpE (defs₀ (F := F)) 𝒱₀ (thr d L) none) Set.univ
        (k1_t7_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 c0 g acc) (issueAt d L cF hcF ev q 2 (g.val + 1)))
    (hissue3 : ∀ (cF : Buf (Elt F) (l0 d L)) (hcF : ∀ x : S512.Idx, ((cF : S512.Idx → BitVec 32) x).toNat < 1000000)
      (ev : Buf (Elt F) (lev d L)) (q : PosShare TreeShare) (v2 : BitVec 32) (g : Fin k1_t10_loop.trips) (acc : Unit),
      issueAt d L cF hcF ev q 3 g.val acc ⊢ wp frame (wpE (defs₀ (F := F)) 𝒱₀ (thr d L) none) Set.univ
        (k1_t10_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 g acc) (issueAt d L cF hcF ev q 3 (g.val + 1)))
    (hissue4 : ∀ (cF : Buf (Elt F) (l0 d L)) (hcF : ∀ x : S512.Idx, ((cF : S512.Idx → BitVec 32) x).toNat < 1000000)
      (ev : Buf (Elt F) (lev d L)) (q : PosShare TreeShare) (v2 : BitVec 32) (g : Fin k1_t13_loop.trips) (acc : Unit),
      issueAt d L cF hcF ev q 4 g.val acc ⊢ wp frame (wpE (defs₀ (F := F)) 𝒱₀ (thr d L) none) Set.univ
        (k1_t13_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 g acc) (issueAt d L cF hcF ev q 4 (g.val + 1)))
    (hissue5 : ∀ (cF : Buf (Elt F) (l0 d L)) (hcF : ∀ x : S512.Idx, ((cF : S512.Idx → BitVec 32) x).toNat < 1000000)
      (ev : Buf (Elt F) (lev d L)) (q : PosShare TreeShare) (v2 : BitVec 32) (g : Fin k1_t16_loop.trips) (acc : Unit),
      issueAt d L cF hcF ev q 5 g.val acc ⊢ wp frame (wpE (defs₀ (F := F)) 𝒱₀ (thr d L) none) Set.univ
        (k1_t16_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 g acc) (issueAt d L cF hcF ev q 5 (g.val + 1)))
    (hissue6 : ∀ (cF : Buf (Elt F) (l0 d L)) (hcF : ∀ x : S512.Idx, ((cF : S512.Idx → BitVec 32) x).toNat < 1000000)
      (ev : Buf (Elt F) (lev d L)) (q : PosShare TreeShare) (v2 : BitVec 32) (g : Fin k1_t19_loop.trips) (acc : Unit),
      issueAt d L cF hcF ev q 6 g.val acc ⊢ wp frame (wpE (defs₀ (F := F)) 𝒱₀ (thr d L) none) Set.univ
        (k1_t19_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 g acc) (issueAt d L cF hcF ev q 6 (g.val + 1)))
    (hissue7 : ∀ (cF : Buf (Elt F) (l0 d L)) (hcF : ∀ x : S512.Idx, ((cF : S512.Idx → BitVec 32) x).toNat < 1000000)
      (ev : Buf (Elt F) (lev d L)) (q : PosShare TreeShare) (g : Fin k1_t22_loop.trips) (acc : Unit),
      issueAt d L cF hcF ev q 7 g.val acc ⊢ wp frame (wpE (defs₀ (F := F)) 𝒱₀ (thr d L) none) Set.univ
        (k1_t22_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 g acc) (issueAt d L cF hcF ev q 7 (g.val + 1)))
    (helem0 : ∀ (cF : Buf (Elt F) (l0 d L)) (Uj : Buf (Elt F) (l2 d L)), CenOK m d L cF → UjOK d L U 0 Uj →
      ∀ (e : Fin k1_t3_loop.trips) (acc : Unit),
      EA 0 cF (m (evLoc d)) Uj e.val acc ⊢ wp frame (wpE (defs₀ (F := F)) 𝒱₀ (thr d L) none) Set.univ
        (k1_t3_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 e acc) (EA 0 cF (m (evLoc d)) Uj (e.val + 1)))
    (helem1 : ∀ (cF : Buf (Elt F) (l0 d L)) (Uj : Buf (Elt F) (l2 d L)), CenOK m d L cF → UjOK d L U 1 Uj →
      ∀ (v2 c0 : BitVec 32) (e : Fin k1_t6_loop.trips) (acc : Unit),
      EA 1 cF (m (evLoc d)) Uj e.val acc ⊢ wp frame (wpE (defs₀ (F := F)) 𝒱₀ (thr d L) none) Set.univ
        (k1_t6_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 c0 e acc) (EA 1 cF (m (evLoc d)) Uj (e.val + 1)))
    (helem2 : ∀ (cF : Buf (Elt F) (l0 d L)) (Uj : Buf (Elt F) (l2 d L)), CenOK m d L cF → UjOK d L U 2 Uj →
      ∀ (v2 c0 : BitVec 32) (e : Fin k1_t9_loop.trips) (acc : Unit),
      EA 2 cF (m (evLoc d)) Uj e.val acc ⊢ wp frame (wpE (defs₀ (F := F)) 𝒱₀ (thr d L) none) Set.univ
        (k1_t9_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 c0 e acc) (EA 2 cF (m (evLoc d)) Uj (e.val + 1)))
    (helem3 : ∀ (cF : Buf (Elt F) (l0 d L)) (Uj : Buf (Elt F) (l2 d L)), CenOK m d L cF → UjOK d L U 3 Uj →
      ∀ (v2 : BitVec 32) (e : Fin k1_t12_loop.trips) (acc : Unit),
      EA 3 cF (m (evLoc d)) Uj e.val acc ⊢ wp frame (wpE (defs₀ (F := F)) 𝒱₀ (thr d L) none) Set.univ
        (k1_t12_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 e acc) (EA 3 cF (m (evLoc d)) Uj (e.val + 1)))
    (helem4 : ∀ (cF : Buf (Elt F) (l0 d L)) (Uj : Buf (Elt F) (l2 d L)), CenOK m d L cF → UjOK d L U 4 Uj →
      ∀ (v2 : BitVec 32) (e : Fin k1_t15_loop.trips) (acc : Unit),
      EA 4 cF (m (evLoc d)) Uj e.val acc ⊢ wp frame (wpE (defs₀ (F := F)) 𝒱₀ (thr d L) none) Set.univ
        (k1_t15_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 e acc) (EA 4 cF (m (evLoc d)) Uj (e.val + 1)))
    (helem5 : ∀ (cF : Buf (Elt F) (l0 d L)) (Uj : Buf (Elt F) (l2 d L)), CenOK m d L cF → UjOK d L U 5 Uj →
      ∀ (v2 : BitVec 32) (e : Fin k1_t18_loop.trips) (acc : Unit),
      EA 5 cF (m (evLoc d)) Uj e.val acc ⊢ wp frame (wpE (defs₀ (F := F)) 𝒱₀ (thr d L) none) Set.univ
        (k1_t18_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 e acc) (EA 5 cF (m (evLoc d)) Uj (e.val + 1)))
    (helem6 : ∀ (cF : Buf (Elt F) (l0 d L)) (Uj : Buf (Elt F) (l2 d L)), CenOK m d L cF → UjOK d L U 6 Uj →
      ∀ (e : Fin k1_t21_loop.trips) (acc : Unit),
      EA 6 cF (m (evLoc d)) Uj e.val acc ⊢ wp frame (wpE (defs₀ (F := F)) 𝒱₀ (thr d L) none) Set.univ
        (k1_t21_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 e acc) (EA 6 cF (m (evLoc d)) Uj (e.val + 1)))
    (helem7 : ∀ (cF : Buf (Elt F) (l0 d L)) (Uj : Buf (Elt F) (l2 d L)), CenOK m d L cF → UjOK d L U 7 Uj →
      ∀ (e : Fin k1_t24_loop.trips) (acc : Unit),
      EA 7 cF (m (evLoc d)) Uj e.val acc ⊢ wp frame (wpE (defs₀ (F := F)) 𝒱₀ (thr d L) none) Set.univ
        (k1_t24_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 e acc) (EA 7 cF (m (evLoc d)) Uj (e.val + 1)))
    (hF : (K (F := F)).Facts) (hpre : TileVDefs.PreOKV m)
    (f0 : Buf (Elt F) (pposLoc d))
    (O : CellTallies nD τ sig (HIx 2)) (W : Waits sig (HIx 2)) (hO : ∀ g, O g none = 0) :
    iprop(levAts (K (F := F)).L (K (F := F)).lev ∗ emp ∗ TileVDefs.goV m d L U f0
        ∗ scopedBufs (thr d L) ∗ scopedSems0 (thr d L) ∗ owes (thr d L) O W)
      ⊢ wp frame (wpE (defs₀ (F := F)) 𝒱₀ (thr d L) none) Set.univ (bodyV (F := F) L)
          fun _ => iprop(TileVDefs.tdV m d L U ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V d (cV L) (jV L), ownBufs_V, ownSems0_V, bigSep_bufsV, bigSep_semsV]
  unfold TileVDefs.goV TileVDefs.tdV
  iintro ⟨#Hlv, -, ⟨Hcen, Hev, Hur, Hpp⟩, ⟨⟨⟨%g0, Hs0⟩, ⟨%g1, Hs1⟩, ⟨%g2, Hs2⟩, ⟨%g3, Hs3⟩⟩, Hbrest⟩, ⟨⟨Hc4, Hr0, Hr1, Hr2, Hr3, Hr4, Hr5, Hr6, Hr7, Hr8, Hr9⟩, Hsrest⟩, HO⟩
  ihave Hmw := ((K (F := F)).mayWaits_none (thr := thr d L) hO) $$ Hlv
  ihave Hcen' := (Entails.of_eq (pts_center d L _).symm) $$ Hcen
  ihave Hpp' := (Entails.of_eq (pts_ppos d L _).symm) $$ Hpp
  ihave Hev' := (Entails.of_eq (pts_ev d L _ _).symm) $$ Hev
  ihave Hur' := (Entails.of_eq ((pts_urows d L _).trans (bigSep_fin8 _))) $$ Hur
  icases Hur' with ⟨Hu0, Hu1, Hu2, Hu3, Hu4, Hu5, Hu6, Hu7⟩
  ihave Hs0' := (Entails.of_eq (pts_s0 d L g0).symm) $$ Hs0
  ihave Hs1' := (Entails.of_eq (pts_s1 d L g1).symm) $$ Hs1
  ihave Hs2' := (Entails.of_eq (pts_s2 d L g2).symm) $$ Hs2
  ihave Hs3' := (Entails.of_eq (pts_s3 d L g3).symm) $$ Hs3
  ihave Hc4' := (show (semVal (V d (cV L) (jV L), SemLoc.dma cc1_scratch4.sem) 0 : sProp 𝕄) ⊢ semVal (thr d L, SemLoc.dma cc1_scratch4.sem) 0 from .rfl) $$ Hc4
  ihave Hr0' := (show (semVal (V d (cV L) (jV L), SemLoc.dma cc1_scoped0.sem) 0 : sProp 𝕄) ⊢ semVal (thr d L, SemLoc.dma cc1_scoped0.sem) 0 from .rfl) $$ Hr0
  ihave Hr1' := (show (semVal (V d (cV L) (jV L), SemLoc.dma cc1_scoped1.sem) 0 : sProp 𝕄) ⊢ semVal (thr d L, SemLoc.dma cc1_scoped1.sem) 0 from .rfl) $$ Hr1
  ihave Hr2' := (show (semVal (V d (cV L) (jV L), SemLoc.dma cc1_scoped2.sem) 0 : sProp 𝕄) ⊢ semVal (thr d L, SemLoc.dma cc1_scoped2.sem) 0 from .rfl) $$ Hr2
  ihave Hr3' := (show (semVal (V d (cV L) (jV L), SemLoc.dma cc1_scoped3.sem) 0 : sProp 𝕄) ⊢ semVal (thr d L, SemLoc.dma cc1_scoped3.sem) 0 from .rfl) $$ Hr3
  ihave Hr4' := (show (semVal (V d (cV L) (jV L), SemLoc.dma cc1_scoped4.sem) 0 : sProp 𝕄) ⊢ semVal (thr d L, SemLoc.dma cc1_scoped4.sem) 0 from .rfl) $$ Hr4
  ihave Hr5' := (show (semVal (V d (cV L) (jV L), SemLoc.dma cc1_scoped5.sem) 0 : sProp 𝕄) ⊢ semVal (thr d L, SemLoc.dma cc1_scoped5.sem) 0 from .rfl) $$ Hr5
  ihave Hr6' := (show (semVal (V d (cV L) (jV L), SemLoc.dma cc1_scoped6.sem) 0 : sProp 𝕄) ⊢ semVal (thr d L, SemLoc.dma cc1_scoped6.sem) 0 from .rfl) $$ Hr6
  ihave Hr7' := (show (semVal (V d (cV L) (jV L), SemLoc.dma cc1_scoped7.sem) 0 : sProp 𝕄) ⊢ semVal (thr d L, SemLoc.dma cc1_scoped7.sem) 0 from .rfl) $$ Hr7
  ihave Hr8' := (show (semVal (V d (cV L) (jV L), SemLoc.dma cc1_scoped8.sem) 0 : sProp 𝕄) ⊢ semVal (thr d L, SemLoc.dma cc1_scoped8.sem) 0 from .rfl) $$ Hr8
  ihave Hr9' := (show (semVal (V d (cV L) (jV L), SemLoc.dma cc1_scoped9.sem) 0 : sProp 𝕄) ⊢ semVal (thr d L, SemLoc.dma cc1_scoped9.sem) 0 from .rfl) $$ Hr9
  sl_unfold [bodyV, cc1__sc_v_body]
  sl_exec
  rw [View.write_whole_univ, View.write_whole_univ]
  -- the centre words the first copy brought in name table rows
  have hcen : CenOK m d L (tile_body_v_of_steps.sl.dma0 m d L) := fun x => by
    unfold tile_body_v_of_steps.sl.dma0
    exact read_centerK d L (m (centerLoc d)) x
  have hcF : ∀ x : S512.Idx, ((tile_body_v_of_steps.sl.dma0 m d L : S512.Idx → BitVec 32) x).toNat < 1000000 := by
    intro x; rw [hcen x]; exact hpre d _
  have hW0 : ∀ p ∈ W, p ∈ W ∨ p.2 = none := fun p hp => .inl hp
  have hU0 : UjOK d L U 0 (tile_body_v_of_steps.sl.dma0_1 d L U) := fun y => by
    unfold tile_body_v_of_steps.sl.dma0_1
    exact read_urowsK d L U 0 y
  have hP0 : okBelow m d L U (1024 * ((0 : Fin 8) : ℕ)) g3 := fun x hx => by
    have : ((0 : Fin 8) : ℕ) = 0 := rfl
    omega
  -- chunk 0: the gather's 64 copies issued on the one semaphore
  ihave Hrows := (rows_split d L _) $$ Hs1'
  ihave Htk := (toks_split d L (m (evLoc d)) (Transfers.shareTok fullShare 32 (wL L))).1 $$ Hev'
  icases Htk with ⟨Hevrest, Htoks⟩
  imod (Transfers.batch_alloc' (Lvl := ℕ) (countersEmb (U := UU)) (thr d L) (none : HIx 2) NR
    (Dv d L (tile_body_v_of_steps.sl.dma0 m d L) hcF (m (evLoc d)) (Transfers.shareTok fullShare 32 (wL L)) 0) (sm := .dma cc1_scratch4.sem) (E := Set.univ)) $$ Hc4' with HB
  sl_for (issueAt d L (tile_body_v_of_steps.sl.dma0 m d L) hcF (m (evLoc d)) (Transfers.shareTok fullShare 32 (wL L)) 0) $$ [HB Hs0' Hrows Htoks]
  · intro g acc; exact hissue0 _ hcF _ _ g acc
  · unfold issueAt
    isplitl [HB]; · iexact HB
    isplitl [Hs0']; · iexact Hs0'
    isplitl [Hrows]; · iexact Hrows
    isplitl [Htoks]; · iexact Htoks
    rw [Ring.bigSep_rangeSet_empty (le_refl _)]; iempintro
  iintro %acc HI
  ihave HI' := (show issueAt d L (tile_body_v_of_steps.sl.dma0 m d L) hcF (m (evLoc d)) (Transfers.shareTok fullShare 32 (wL L)) 0 (Scf.trips k1_t1_loop.lb k1_t1_loop.ub k1_t1_loop.st) acc
      ⊢ iprop(batch d L (tile_body_v_of_steps.sl.dma0 m d L) hcF (m (evLoc d)) (Transfers.shareTok fullShare 32 (wL L)) 0 64 0 ∗ ((s0).view.loc (thr d L) ↦{fullShare} (tile_body_v_of_steps.sl.dma0 m d L))
          ∗ bigSep (Ring.rangeSet 64 0 64) (tokRest d L (tile_body_v_of_steps.sl.dma0 m d L) hcF (m (evLoc d)) (Transfers.shareTok fullShare 32 (wL L)) 0)) from by
    unfold issueAt
    rw [show Scf.trips k1_t1_loop.lb k1_t1_loop.ub k1_t1_loop.st = 4 from rfl, Ring.bigSep_rangeSet_empty (le_refl _), Ring.bigSep_rangeSet_empty (le_refl _)]
    iintro ⟨HB, Hs, -, -, Hr⟩
    isplitl [HB]; · iexact HB
    isplitl [Hs]; · iexact Hs
    iexact Hr) $$ HI
  icases HI' with ⟨HB, Hs0', Htr⟩
  -- chunk 0: the 64 waits
  sl_exec
  sl_for (drainAt d L (tile_body_v_of_steps.sl.dma0 m d L) hcF (m (evLoc d)) (Transfers.shareTok fullShare 32 (wL L)) 0 O W) $$ [HB HO]
  · intro k acc; exact drain_step0 d L (tile_body_v_of_steps.sl.dma0 m d L) hcF (m (evLoc d)) (Transfers.shareTok fullShare 32 (wL L)) O W k acc
  · unfold drainAt
    isplitr; · ipureintro; omega
    isplitr; · iexact Hmw
    isplitl [HO]
    · iexists _; isplitr
      rotate_left
      · iexact HO
      · ipureintro; intro p hp
        rcases Finset.mem_insert.mp hp with hp | hp
        · exact .inr (hp ▸ rfl)
        rcases Finset.mem_insert.mp hp with hp | hp
        · exact .inr (hp ▸ rfl)
        exact hW0 p hp
    rw [if_pos (by decide), Nat.zero_mul]; iexact HB
  iintro %acc HD
  ihave HD' := (show drainAt d L (tile_body_v_of_steps.sl.dma0 m d L) hcF (m (evLoc d)) (Transfers.shareTok fullShare 32 (wL L)) 0 O W (Scf.trips k1_t2_loop.lb k1_t2_loop.ub k1_t2_loop.st) acc
      ⊢ iprop((∃ W', ⌜∀ p ∈ W', p ∈ W ∨ p.2 = none⌝ ∗ owes (thr d L) O W') ∗ semVal (thr d L, SemLoc.dma cc1_scratch4.sem) 0
          ∗ bigSep Finset.univ (Dv d L (tile_body_v_of_steps.sl.dma0 m d L) hcF (m (evLoc d)) (Transfers.shareTok fullShare 32 (wL L)) 0)) from by
    unfold drainAt
    rw [show Scf.trips k1_t2_loop.lb k1_t2_loop.ub k1_t2_loop.st = 64 from rfl, if_neg (Nat.lt_irrefl _)]
    iintro ⟨-, -, HO, Hc, Hall⟩
    isplitl [HO]; · iexact HO
    isplitl [Hc] <;> iassumption) $$ HD
  icases HD' with ⟨⟨%Wd0, %hWd0, HO⟩, Hc4', Hall⟩
  ihave Hcol := (collect' d L (tile_body_v_of_steps.sl.dma0 m d L) hcF (m (evLoc d)) (Transfers.shareTok fullShare 32 (wL L)) 0) $$ [Hall Htr]
  · isplitl [Hall] <;> iassumption
  icases Hcol with ⟨Hs1', Htoks⟩
  ihave Hev' := (toks_split d L (m (evLoc d)) (Transfers.shareTok fullShare 32 (wL L))).2 $$ [Hevrest Htoks]
  · isplitl [Hevrest] <;> iassumption
  -- chunk 0: the 64 elements' partial products
  sl_exec
  sl_for (EA 0 (tile_body_v_of_steps.sl.dma0 m d L) (m (evLoc d)) (tile_body_v_of_steps.sl.dma0_1 d L U)) $$ [Hs1' Hs2' Hs3']
  · intro e acc; exact helem0 _ _ hcen hU0 e acc
  · iapply (hEAin 0 (tile_body_v_of_steps.sl.dma0 m d L) (tile_body_v_of_steps.sl.dma0_1 d L U) g3 hcen hU0 hP0)
    isplitl [Hs1']; · iexact Hs1'
    isplitl [Hs2'] <;> iassumption
  iintro %acc HE
  ihave HE' := (show EA 0 (tile_body_v_of_steps.sl.dma0 m d L) (m (evLoc d)) (tile_body_v_of_steps.sl.dma0_1 d L U) (Scf.trips k1_t3_loop.lb k1_t3_loop.ub k1_t3_loop.st) acc ⊢ _ from hEAout 0 (tile_body_v_of_steps.sl.dma0 m d L) (tile_body_v_of_steps.sl.dma0_1 d L U) acc) $$ HE
  icases HE' with ⟨%pf0, %hpf0, Hs1', Hs2', Hs3'⟩
  sl_exec
  rw [View.write_whole_univ]
  have hU1 : UjOK d L U 1 (tile_body_v_of_steps.sl.dma0_2 d L U) := fun y => by
    unfold tile_body_v_of_steps.sl.dma0_2
    exact read_urowsK d L U 1 y
  have hP1 : okBelow m d L U (1024 * ((1 : Fin 8) : ℕ)) pf0 := hpf0
  -- chunk 1: the gather's 64 copies issued on the one semaphore
  ihave Hrows := (rows_split d L _) $$ Hs1'
  ihave Htk := (toks_split d L (m (evLoc d)) (Transfers.shareTok fullShare 32 (wL L))).1 $$ Hev'
  icases Htk with ⟨Hevrest, Htoks⟩
  imod (Transfers.batch_alloc' (Lvl := ℕ) (countersEmb (U := UU)) (thr d L) (none : HIx 2) NR
    (Dv d L (tile_body_v_of_steps.sl.dma0 m d L) hcF (m (evLoc d)) (Transfers.shareTok fullShare 32 (wL L)) 1) (sm := .dma cc1_scratch4.sem) (E := Set.univ)) $$ Hc4' with HB
  sl_for (issueAt d L (tile_body_v_of_steps.sl.dma0 m d L) hcF (m (evLoc d)) (Transfers.shareTok fullShare 32 (wL L)) 1) $$ [HB Hs0' Hrows Htoks]
  · intro g acc; exact hissue1 _ hcF _ _ _ _ g acc
  · unfold issueAt
    isplitl [HB]; · iexact HB
    isplitl [Hs0']; · iexact Hs0'
    isplitl [Hrows]; · iexact Hrows
    isplitl [Htoks]; · iexact Htoks
    rw [Ring.bigSep_rangeSet_empty (le_refl _)]; iempintro
  iintro %acc HI
  ihave HI' := (show issueAt d L (tile_body_v_of_steps.sl.dma0 m d L) hcF (m (evLoc d)) (Transfers.shareTok fullShare 32 (wL L)) 1 (Scf.trips k1_t4_loop.lb k1_t4_loop.ub k1_t4_loop.st) acc
      ⊢ iprop(batch d L (tile_body_v_of_steps.sl.dma0 m d L) hcF (m (evLoc d)) (Transfers.shareTok fullShare 32 (wL L)) 1 64 0 ∗ ((s0).view.loc (thr d L) ↦{fullShare} (tile_body_v_of_steps.sl.dma0 m d L))
          ∗ bigSep (Ring.rangeSet 64 0 64) (tokRest d L (tile_body_v_of_steps.sl.dma0 m d L) hcF (m (evLoc d)) (Transfers.shareTok fullShare 32 (wL L)) 1)) from by
    unfold issueAt
    rw [show Scf.trips k1_t4_loop.lb k1_t4_loop.ub k1_t4_loop.st = 4 from rfl, Ring.bigSep_rangeSet_empty (le_refl _), Ring.bigSep_rangeSet_empty (le_refl _)]
    iintro ⟨HB, Hs, -, -, Hr⟩
    isplitl [HB]; · iexact HB
    isplitl [Hs]; · iexact Hs
    iexact Hr) $$ HI
  icases HI' with ⟨HB, Hs0', Htr⟩
  -- chunk 1: the 64 waits
  sl_exec
  sl_for (drainAt d L (tile_body_v_of_steps.sl.dma0 m d L) hcF (m (evLoc d)) (Transfers.shareTok fullShare 32 (wL L)) 1 O W) $$ [HB HO]
  · intro k acc; exact drain_step1 d L (tile_body_v_of_steps.sl.dma0 m d L) hcF (m (evLoc d)) (Transfers.shareTok fullShare 32 (wL L)) O W _ _ k acc
  · unfold drainAt
    isplitr; · ipureintro; omega
    isplitr; · iexact Hmw
    isplitl [HO]
    · iexists _; isplitr
      rotate_left
      · iexact HO
      · ipureintro; intro p hp
        rcases Finset.mem_insert.mp hp with hp | hp
        · exact .inr (hp ▸ rfl)
        exact hWd0 p hp
    rw [if_pos (by decide), Nat.zero_mul]; iexact HB
  iintro %acc HD
  ihave HD' := (show drainAt d L (tile_body_v_of_steps.sl.dma0 m d L) hcF (m (evLoc d)) (Transfers.shareTok fullShare 32 (wL L)) 1 O W (Scf.trips k1_t5_loop.lb k1_t5_loop.ub k1_t5_loop.st) acc
      ⊢ iprop((∃ W', ⌜∀ p ∈ W', p ∈ W ∨ p.2 = none⌝ ∗ owes (thr d L) O W') ∗ semVal (thr d L, SemLoc.dma cc1_scratch4.sem) 0
          ∗ bigSep Finset.univ (Dv d L (tile_body_v_of_steps.sl.dma0 m d L) hcF (m (evLoc d)) (Transfers.shareTok fullShare 32 (wL L)) 1)) from by
    unfold drainAt
    rw [show Scf.trips k1_t5_loop.lb k1_t5_loop.ub k1_t5_loop.st = 64 from rfl, if_neg (Nat.lt_irrefl _)]
    iintro ⟨-, -, HO, Hc, Hall⟩
    isplitl [HO]; · iexact HO
    isplitl [Hc] <;> iassumption) $$ HD
  icases HD' with ⟨⟨%Wd1, %hWd1, HO⟩, Hc4', Hall⟩
  ihave Hcol := (collect' d L (tile_body_v_of_steps.sl.dma0 m d L) hcF (m (evLoc d)) (Transfers.shareTok fullShare 32 (wL L)) 1) $$ [Hall Htr]
  · isplitl [Hall] <;> iassumption
  icases Hcol with ⟨Hs1', Htoks⟩
  ihave Hev' := (toks_split d L (m (evLoc d)) (Transfers.shareTok fullShare 32 (wL L))).2 $$ [Hevrest Htoks]
  · isplitl [Hevrest] <;> iassumption
  -- chunk 1: the 64 elements' partial products
  sl_exec
  sl_for (EA 1 (tile_body_v_of_steps.sl.dma0 m d L) (m (evLoc d)) (tile_body_v_of_steps.sl.dma0_2 d L U)) $$ [Hs1' Hs2' Hs3']
  · intro e acc; exact helem1 _ _ hcen hU1 _ _ e acc
  · iapply (hEAin 1 (tile_body_v_of_steps.sl.dma0 m d L) (tile_body_v_of_steps.sl.dma0_2 d L U) pf0 hcen hU1 hP1)
    isplitl [Hs1']; · iexact Hs1'
    isplitl [Hs2'] <;> iassumption
  iintro %acc HE
  ihave HE' := (show EA 1 (tile_body_v_of_steps.sl.dma0 m d L) (m (evLoc d)) (tile_body_v_of_steps.sl.dma0_2 d L U) (Scf.trips k1_t6_loop.lb k1_t6_loop.ub k1_t6_loop.st) acc ⊢ _ from hEAout 1 (tile_body_v_of_steps.sl.dma0 m d L) (tile_body_v_of_steps.sl.dma0_2 d L U) acc) $$ HE
  icases HE' with ⟨%pf1, %hpf1, Hs1', Hs2', Hs3'⟩
  sl_exec
  rw [View.write_whole_univ]
  have hU2 : UjOK d L U 2 (tile_body_v_of_steps.sl.dma0_3 d L U) := fun y => by
    unfold tile_body_v_of_steps.sl.dma0_3
    exact read_urowsK d L U 2 y
  have hP2 : okBelow m d L U (1024 * ((2 : Fin 8) : ℕ)) pf1 := hpf1
  -- chunk 2: the gather's 64 copies issued on the one semaphore
  ihave Hrows := (rows_split d L _) $$ Hs1'
  ihave Htk := (toks_split d L (m (evLoc d)) (Transfers.shareTok fullShare 32 (wL L))).1 $$ Hev'
  icases Htk with ⟨Hevrest, Htoks⟩
  imod (Transfers.batch_alloc' (Lvl := ℕ) (countersEmb (U := UU)) (thr d L) (none : HIx 2) NR
    (Dv d L (tile_body_v_of_steps.sl.dma0 m d L) hcF (m (evLoc d)) (Transfers.shareTok fullShare 32 (wL L)) 2) (sm := .dma cc1_scratch4.sem) (E := Set.univ)) $$ Hc4' with HB
  sl_for (issueAt d L (tile_body_v_of_steps.sl.dma0 m d L) hcF (m (evLoc d)) (Transfers.shareTok fullShare 32 (wL L)) 2) $$ [HB Hs0' Hrows Htoks]
  · intro g acc; exact hissue2 _ hcF _ _ _ _ g acc
  · unfold issueAt
    isplitl [HB]; · iexact HB
    isplitl [Hs0']; · iexact Hs0'
    isplitl [Hrows]; · iexact Hrows
    isplitl [Htoks]; · iexact Htoks
    rw [Ring.bigSep_rangeSet_empty (le_refl _)]; iempintro
  iintro %acc HI
  ihave HI' := (show issueAt d L (tile_body_v_of_steps.sl.dma0 m d L) hcF (m (evLoc d)) (Transfers.shareTok fullShare 32 (wL L)) 2 (Scf.trips k1_t7_loop.lb k1_t7_loop.ub k1_t7_loop.st) acc
      ⊢ iprop(batch d L (tile_body_v_of_steps.sl.dma0 m d L) hcF (m (evLoc d)) (Transfers.shareTok fullShare 32 (wL L)) 2 64 0 ∗ ((s0).view.loc (thr d L) ↦{fullShare} (tile_body_v_of_steps.sl.dma0 m d L))
          ∗ bigSep (Ring.rangeSet 64 0 64) (tokRest d L (tile_body_v_of_steps.sl.dma0 m d L) hcF (m (evLoc d)) (Transfers.shareTok fullShare 32 (wL L)) 2)) from by
    unfold issueAt
    rw [show Scf.trips k1_t7_loop.lb k1_t7_loop.ub k1_t7_loop.st = 4 from rfl, Ring.bigSep_rangeSet_empty (le_refl _), Ring.bigSep_rangeSet_empty (le_refl _)]
    iintro ⟨HB, Hs, -, -, Hr⟩
    isplitl [HB]; · iexact HB
    isplitl [Hs]; · iexact Hs
    iexact Hr) $$ HI
  icases HI' with ⟨HB, Hs0', Htr⟩
  -- chunk 2: the 64 waits
  sl_exec
  sl_for (drainAt d L (tile_body_v_of_steps.sl.dma0 m d L) hcF (m (evLoc d)) (Transfers.shareTok fullShare 32 (wL L)) 2 O W) $$ [HB HO]
  · intro k acc; exact drain_step2 d L (tile_body_v_of_steps.sl.dma0 m d L) hcF (m (evLoc d)) (Transfers.shareTok fullShare 32 (wL L)) O W _ _ k acc
  · unfold drainAt
    isplitr; · ipureintro; omega
    isplitr; · iexact Hmw
    isplitl [HO]
    · iexists _; isplitr
      rotate_left
      · iexact HO
      · ipureintro; intro p hp
        rcases Finset.mem_insert.mp hp with hp | hp
        · exact .inr (hp ▸ rfl)
        exact hWd1 p hp
    rw [if_pos (by decide), Nat.zero_mul]; iexact HB
  iintro %acc HD
  ihave HD' := (show drainAt d L (tile_body_v_of_steps.sl.dma0 m d L) hcF (m (evLoc d)) (Transfers.shareTok fullShare 32 (wL L)) 2 O W (Scf.trips k1_t8_loop.lb k1_t8_loop.ub k1_t8_loop.st) acc
      ⊢ iprop((∃ W', ⌜∀ p ∈ W', p ∈ W ∨ p.2 = none⌝ ∗ owes (thr d L) O W') ∗ semVal (thr d L, SemLoc.dma cc1_scratch4.sem) 0
          ∗ bigSep Finset.univ (Dv d L (tile_body_v_of_steps.sl.dma0 m d L) hcF (m (evLoc d)) (Transfers.shareTok fullShare 32 (wL L)) 2)) from by
    unfold drainAt
    rw [show Scf.trips k1_t8_loop.lb k1_t8_loop.ub k1_t8_loop.st = 64 from rfl, if_neg (Nat.lt_irrefl _)]
    iintro ⟨-, -, HO, Hc, Hall⟩
    isplitl [HO]; · iexact HO
    isplitl [Hc] <;> iassumption) $$ HD
  icases HD' with ⟨⟨%Wd2, %hWd2, HO⟩, Hc4', Hall⟩
  ihave Hcol := (collect' d L (tile_body_v_of_steps.sl.dma0 m d L) hcF (m (evLoc d)) (Transfers.shareTok fullShare 32 (wL L)) 2) $$ [Hall Htr]
  · isplitl [Hall] <;> iassumption
  icases Hcol with ⟨Hs1', Htoks⟩
  ihave Hev' := (toks_split d L (m (evLoc d)) (Transfers.shareTok fullShare 32 (wL L))).2 $$ [Hevrest Htoks]
  · isplitl [Hevrest] <;> iassumption
  -- chunk 2: the 64 elements' partial products
  sl_exec
  sl_for (EA 2 (tile_body_v_of_steps.sl.dma0 m d L) (m (evLoc d)) (tile_body_v_of_steps.sl.dma0_3 d L U)) $$ [Hs1' Hs2' Hs3']
  · intro e acc; exact helem2 _ _ hcen hU2 _ _ e acc
  · iapply (hEAin 2 (tile_body_v_of_steps.sl.dma0 m d L) (tile_body_v_of_steps.sl.dma0_3 d L U) pf1 hcen hU2 hP2)
    isplitl [Hs1']; · iexact Hs1'
    isplitl [Hs2'] <;> iassumption
  iintro %acc HE
  ihave HE' := (show EA 2 (tile_body_v_of_steps.sl.dma0 m d L) (m (evLoc d)) (tile_body_v_of_steps.sl.dma0_3 d L U) (Scf.trips k1_t9_loop.lb k1_t9_loop.ub k1_t9_loop.st) acc ⊢ _ from hEAout 2 (tile_body_v_of_steps.sl.dma0 m d L) (tile_body_v_of_steps.sl.dma0_3 d L U) acc) $$ HE
  icases HE' with ⟨%pf2, %hpf2, Hs1', Hs2', Hs3'⟩
  sl_exec
  rw [View.write_whole_univ]
  have hU3 : UjOK d L U 3 (tile_body_v_of_steps.sl.dma0_4 d L U) := fun y => by
    unfold tile_body_v_of_steps.sl.dma0_4
    exact read_urowsK d L U 3 y
  have hP3 : okBelow m d L U (1024 * ((3 : Fin 8) : ℕ)) pf2 := hpf2
  -- chunk 3: the gather's 64 copies issued on the one semaphore
  ihave Hrows := (rows_split d L _) $$ Hs1'
  ihave Htk := (toks_split d L (m (evLoc d)) (Transfers.shareTok fullShare 32 (wL L))).1 $$ Hev'
  icases Htk with ⟨Hevrest, Htoks⟩
  imod (Transfers.batch_alloc' (Lvl := ℕ) (countersEmb (U := UU)) (thr d L) (none : HIx 2) NR
    (Dv d L (tile_body_v_of_steps.sl.dma0 m d L) hcF (m (evLoc d)) (Transfers.shareTok fullShare 32 (wL L)) 3) (sm := .dma cc1_scratch4.sem) (E := Set.univ)) $$ Hc4' with HB
  sl_for (issueAt d L (tile_body_v_of_steps.sl.dma0 m d L) hcF (m (evLoc d)) (Transfers.shareTok fullShare 32 (wL L)) 3) $$ [HB Hs0' Hrows Htoks]
  · intro g acc; exact hissue3 _ hcF _ _ _ g acc
  · unfold issueAt
    isplitl [HB]; · iexact HB
    isplitl [Hs0']; · iexact Hs0'
    isplitl [Hrows]; · iexact Hrows
    isplitl [Htoks]; · iexact Htoks
    rw [Ring.bigSep_rangeSet_empty (le_refl _)]; iempintro
  iintro %acc HI
  ihave HI' := (show issueAt d L (tile_body_v_of_steps.sl.dma0 m d L) hcF (m (evLoc d)) (Transfers.shareTok fullShare 32 (wL L)) 3 (Scf.trips k1_t10_loop.lb k1_t10_loop.ub k1_t10_loop.st) acc
      ⊢ iprop(batch d L (tile_body_v_of_steps.sl.dma0 m d L) hcF (m (evLoc d)) (Transfers.shareTok fullShare 32 (wL L)) 3 64 0 ∗ ((s0).view.loc (thr d L) ↦{fullShare} (tile_body_v_of_steps.sl.dma0 m d L))
          ∗ bigSep (Ring.rangeSet 64 0 64) (tokRest d L (tile_body_v_of_steps.sl.dma0 m d L) hcF (m (evLoc d)) (Transfers.shareTok fullShare 32 (wL L)) 3)) from by
    unfold issueAt
    rw [show Scf.trips k1_t10_loop.lb k1_t10_loop.ub k1_t10_loop.st = 4 from rfl, Ring.bigSep_rangeSet_empty (le_refl _), Ring.bigSep_rangeSet_empty (le_refl _)]
    iintro ⟨HB, Hs, -, -, Hr⟩
    isplitl [HB]; · iexact HB
    isplitl [Hs]; · iexact Hs
    iexact Hr) $$ HI
  icases HI' with ⟨HB, Hs0', Htr⟩
  -- chunk 3: the 64 waits
  sl_exec
  sl_for (drainAt d L (tile_body_v_of_steps.sl.dma0 m d L) hcF (m (evLoc d)) (Transfers.shareTok fullShare 32 (wL L)) 3 O W) $$ [HB HO]
  · intro k acc; exact drain_step3 d L (tile_body_v_of_steps.sl.dma0 m d L) hcF (m (evLoc d)) (Transfers.shareTok fullShare 32 (wL L)) O W _ k acc
  · unfold drainAt
    isplitr; · ipureintro; omega
    isplitr; · iexact Hmw
    isplitl [HO]
    · iexists _; isplitr
      rotate_left
      · iexact HO
      · ipureintro; intro p hp
        rcases Finset.mem_insert.mp hp with hp | hp
        · exact .inr (hp ▸ rfl)
        exact hWd2 p hp
    rw [if_pos (by decide), Nat.zero_mul]; iexact HB
  iintro %acc HD
  ihave HD' := (show drainAt d L (tile_body_v_of_steps.sl.dma0 m d L) hcF (m (evLoc d)) (Transfers.shareTok fullShare 32 (wL L)) 3 O W (Scf.trips k1_t11_loop.lb k1_t11_loop.ub k1_t11_loop.st) acc
      ⊢ iprop((∃ W', ⌜∀ p ∈ W', p ∈ W ∨ p.2 = none⌝ ∗ owes (thr d L) O W') ∗ semVal (thr d L, SemLoc.dma cc1_scratch4.sem) 0
          ∗ bigSep Finset.univ (Dv d L (tile_body_v_of_steps.sl.dma0 m d L) hcF (m (evLoc d)) (Transfers.shareTok fullShare 32 (wL L)) 3)) from by
    unfold drainAt
    rw [show Scf.trips k1_t11_loop.lb k1_t11_loop.ub k1_t11_loop.st = 64 from rfl, if_neg (Nat.lt_irrefl _)]
    iintro ⟨-, -, HO, Hc, Hall⟩
    isplitl [HO]; · iexact HO
    isplitl [Hc] <;> iassumption) $$ HD
  icases HD' with ⟨⟨%Wd3, %hWd3, HO⟩, Hc4', Hall⟩
  ihave Hcol := (collect' d L (tile_body_v_of_steps.sl.dma0 m d L) hcF (m (evLoc d)) (Transfers.shareTok fullShare 32 (wL L)) 3) $$ [Hall Htr]
  · isplitl [Hall] <;> iassumption
  icases Hcol with ⟨Hs1', Htoks⟩
  ihave Hev' := (toks_split d L (m (evLoc d)) (Transfers.shareTok fullShare 32 (wL L))).2 $$ [Hevrest Htoks]
  · isplitl [Hevrest] <;> iassumption
  -- chunk 3: the 64 elements' partial products
  sl_exec
  sl_for (EA 3 (tile_body_v_of_steps.sl.dma0 m d L) (m (evLoc d)) (tile_body_v_of_steps.sl.dma0_4 d L U)) $$ [Hs1' Hs2' Hs3']
  · intro e acc; exact helem3 _ _ hcen hU3 _ e acc
  · iapply (hEAin 3 (tile_body_v_of_steps.sl.dma0 m d L) (tile_body_v_of_steps.sl.dma0_4 d L U) pf2 hcen hU3 hP3)
    isplitl [Hs1']; · iexact Hs1'
    isplitl [Hs2'] <;> iassumption
  iintro %acc HE
  ihave HE' := (show EA 3 (tile_body_v_of_steps.sl.dma0 m d L) (m (evLoc d)) (tile_body_v_of_steps.sl.dma0_4 d L U) (Scf.trips k1_t12_loop.lb k1_t12_loop.ub k1_t12_loop.st) acc ⊢ _ from hEAout 3 (tile_body_v_of_steps.sl.dma0 m d L) (tile_body_v_of_steps.sl.dma0_4 d L U) acc) $$ HE
  icases HE' with ⟨%pf3, %hpf3, Hs1', Hs2', Hs3'⟩
  sl_exec
  rw [View.write_whole_univ]
  have hU4 : UjOK d L U 4 (tile_body_v_of_steps.sl.dma0_5 d L U) := fun y => by
    unfold tile_body_v_of_steps.sl.dma0_5
    exact read_urowsK d L U 4 y
  have hP4 : okBelow m d L U (1024 * ((4 : Fin 8) : ℕ)) pf3 := hpf3
  -- chunk 4: the gather's 64 copies issued on the one semaphore
  ihave Hrows := (rows_split d L _) $$ Hs1'
  ihave Htk := (toks_split d L (m (evLoc d)) (Transfers.shareTok fullShare 32 (wL L))).1 $$ Hev'
  icases Htk with ⟨Hevrest, Htoks⟩
  imod (Transfers.batch_alloc' (Lvl := ℕ) (countersEmb (U := UU)) (thr d L) (none : HIx 2) NR
    (Dv d L (tile_body_v_of_steps.sl.dma0 m d L) hcF (m (evLoc d)) (Transfers.shareTok fullShare 32 (wL L)) 4) (sm := .dma cc1_scratch4.sem) (E := Set.univ)) $$ Hc4' with HB
  sl_for (issueAt d L (tile_body_v_of_steps.sl.dma0 m d L) hcF (m (evLoc d)) (Transfers.shareTok fullShare 32 (wL L)) 4) $$ [HB Hs0' Hrows Htoks]
  · intro g acc; exact hissue4 _ hcF _ _ _ g acc
  · unfold issueAt
    isplitl [HB]; · iexact HB
    isplitl [Hs0']; · iexact Hs0'
    isplitl [Hrows]; · iexact Hrows
    isplitl [Htoks]; · iexact Htoks
    rw [Ring.bigSep_rangeSet_empty (le_refl _)]; iempintro
  iintro %acc HI
  ihave HI' := (show issueAt d L (tile_body_v_of_steps.sl.dma0 m d L) hcF (m (evLoc d)) (Transfers.shareTok fullShare 32 (wL L)) 4 (Scf.trips k1_t13_loop.lb k1_t13_loop.ub k1_t13_loop.st) acc
      ⊢ iprop(batch d L (tile_body_v_of_steps.sl.dma0 m d L) hcF (m (evLoc d)) (Transfers.shareTok fullShare 32 (wL L)) 4 64 0 ∗ ((s0).view.loc (thr d L) ↦{fullShare} (tile_body_v_of_steps.sl.dma0 m d L))
          ∗ bigSep (Ring.rangeSet 64 0 64) (tokRest d L (tile_body_v_of_steps.sl.dma0 m d L) hcF (m (evLoc d)) (Transfers.shareTok fullShare 32 (wL L)) 4)) from by
    unfold issueAt
    rw [show Scf.trips k1_t13_loop.lb k1_t13_loop.ub k1_t13_loop.st = 4 from rfl, Ring.bigSep_rangeSet_empty (le_refl _), Ring.bigSep_rangeSet_empty (le_refl _)]
    iintro ⟨HB, Hs, -, -, Hr⟩
    isplitl [HB]; · iexact HB
    isplitl [Hs]; · iexact Hs
    iexact Hr) $$ HI
  icases HI' with ⟨HB, Hs0', Htr⟩
  -- chunk 4: the 64 waits
  sl_exec
  sl_for (drainAt d L (tile_body_v_of_steps.sl.dma0 m d L) hcF (m (evLoc d)) (Transfers.shareTok fullShare 32 (wL L)) 4 O W) $$ [HB HO]
  · intro k acc; exact drain_step4 d L (tile_body_v_of_steps.sl.dma0 m d L) hcF (m (evLoc d)) (Transfers.shareTok fullShare 32 (wL L)) O W _ k acc
  · unfold drainAt
    isplitr; · ipureintro; omega
    isplitr; · iexact Hmw
    isplitl [HO]
    · iexists _; isplitr
      rotate_left
      · iexact HO
      · ipureintro; intro p hp
        rcases Finset.mem_insert.mp hp with hp | hp
        · exact .inr (hp ▸ rfl)
        exact hWd3 p hp
    rw [if_pos (by decide), Nat.zero_mul]; iexact HB
  iintro %acc HD
  ihave HD' := (show drainAt d L (tile_body_v_of_steps.sl.dma0 m d L) hcF (m (evLoc d)) (Transfers.shareTok fullShare 32 (wL L)) 4 O W (Scf.trips k1_t14_loop.lb k1_t14_loop.ub k1_t14_loop.st) acc
      ⊢ iprop((∃ W', ⌜∀ p ∈ W', p ∈ W ∨ p.2 = none⌝ ∗ owes (thr d L) O W') ∗ semVal (thr d L, SemLoc.dma cc1_scratch4.sem) 0
          ∗ bigSep Finset.univ (Dv d L (tile_body_v_of_steps.sl.dma0 m d L) hcF (m (evLoc d)) (Transfers.shareTok fullShare 32 (wL L)) 4)) from by
    unfold drainAt
    rw [show Scf.trips k1_t14_loop.lb k1_t14_loop.ub k1_t14_loop.st = 64 from rfl, if_neg (Nat.lt_irrefl _)]
    iintro ⟨-, -, HO, Hc, Hall⟩
    isplitl [HO]; · iexact HO
    isplitl [Hc] <;> iassumption) $$ HD
  icases HD' with ⟨⟨%Wd4, %hWd4, HO⟩, Hc4', Hall⟩
  ihave Hcol := (collect' d L (tile_body_v_of_steps.sl.dma0 m d L) hcF (m (evLoc d)) (Transfers.shareTok fullShare 32 (wL L)) 4) $$ [Hall Htr]
  · isplitl [Hall] <;> iassumption
  icases Hcol with ⟨Hs1', Htoks⟩
  ihave Hev' := (toks_split d L (m (evLoc d)) (Transfers.shareTok fullShare 32 (wL L))).2 $$ [Hevrest Htoks]
  · isplitl [Hevrest] <;> iassumption
  -- chunk 4: the 64 elements' partial products
  sl_exec
  sl_for (EA 4 (tile_body_v_of_steps.sl.dma0 m d L) (m (evLoc d)) (tile_body_v_of_steps.sl.dma0_5 d L U)) $$ [Hs1' Hs2' Hs3']
  · intro e acc; exact helem4 _ _ hcen hU4 _ e acc
  · iapply (hEAin 4 (tile_body_v_of_steps.sl.dma0 m d L) (tile_body_v_of_steps.sl.dma0_5 d L U) pf3 hcen hU4 hP4)
    isplitl [Hs1']; · iexact Hs1'
    isplitl [Hs2'] <;> iassumption
  iintro %acc HE
  ihave HE' := (show EA 4 (tile_body_v_of_steps.sl.dma0 m d L) (m (evLoc d)) (tile_body_v_of_steps.sl.dma0_5 d L U) (Scf.trips k1_t15_loop.lb k1_t15_loop.ub k1_t15_loop.st) acc ⊢ _ from hEAout 4 (tile_body_v_of_steps.sl.dma0 m d L) (tile_body_v_of_steps.sl.dma0_5 d L U) acc) $$ HE
  icases HE' with ⟨%pf4, %hpf4, Hs1', Hs2', Hs3'⟩
  sl_exec
  rw [View.write_whole_univ]
  have hU5 : UjOK d L U 5 (tile_body_v_of_steps.sl.dma0_6 d L U) := fun y => by
    unfold tile_body_v_of_steps.sl.dma0_6
    exact read_urowsK d L U 5 y
  have hP5 : okBelow m d L U (1024 * ((5 : Fin 8) : ℕ)) pf4 := hpf4
  -- chunk 5: the gather's 64 copies issued on the one semaphore
  ihave Hrows := (rows_split d L _) $$ Hs1'
  ihave Htk := (toks_split d L (m (evLoc d)) (Transfers.shareTok fullShare 32 (wL L))).1 $$ Hev'
  icases Htk with ⟨Hevrest, Htoks⟩
  imod (Transfers.batch_alloc' (Lvl := ℕ) (countersEmb (U := UU)) (thr d L) (none : HIx 2) NR
    (Dv d L (tile_body_v_of_steps.sl.dma0 m d L) hcF (m (evLoc d)) (Transfers.shareTok fullShare 32 (wL L)) 5) (sm := .dma cc1_scratch4.sem) (E := Set.univ)) $$ Hc4' with HB
  sl_for (issueAt d L (tile_body_v_of_steps.sl.dma0 m d L) hcF (m (evLoc d)) (Transfers.shareTok fullShare 32 (wL L)) 5) $$ [HB Hs0' Hrows Htoks]
  · intro g acc; exact hissue5 _ hcF _ _ _ g acc
  · unfold issueAt
    isplitl [HB]; · iexact HB
    isplitl [Hs0']; · iexact Hs0'
    isplitl [Hrows]; · iexact Hrows
    isplitl [Htoks]; · iexact Htoks
    rw [Ring.bigSep_rangeSet_empty (le_refl _)]; iempintro
  iintro %acc HI
  ihave HI' := (show issueAt d L (tile_body_v_of_steps.sl.dma0 m d L) hcF (m (evLoc d)) (Transfers.shareTok fullShare 32 (wL L)) 5 (Scf.trips k1_t16_loop.lb k1_t16_loop.ub k1_t16_loop.st) acc
      ⊢ iprop(batch d L (tile_body_v_of_steps.sl.dma0 m d L) hcF (m (evLoc d)) (Transfers.shareTok fullShare 32 (wL L)) 5 64 0 ∗ ((s0).view.loc (thr d L) ↦{fullShare} (tile_body_v_of_steps.sl.dma0 m d L))
          ∗ bigSep (Ring.rangeSet 64 0 64) (tokRest d L (tile_body_v_of_steps.sl.dma0 m d L) hcF (m (evLoc d)) (Transfers.shareTok fullShare 32 (wL L)) 5)) from by
    unfold issueAt
    rw [show Scf.trips k1_t16_loop.lb k1_t16_loop.ub k1_t16_loop.st = 4 from rfl, Ring.bigSep_rangeSet_empty (le_refl _), Ring.bigSep_rangeSet_empty (le_refl _)]
    iintro ⟨HB, Hs, -, -, Hr⟩
    isplitl [HB]; · iexact HB
    isplitl [Hs]; · iexact Hs
    iexact Hr) $$ HI
  icases HI' with ⟨HB, Hs0', Htr⟩
  -- chunk 5: the 64 waits
  sl_exec
  sl_for (drainAt d L (tile_body_v_of_steps.sl.dma0 m d L) hcF (m (evLoc d)) (Transfers.shareTok fullShare 32 (wL L)) 5 O W) $$ [HB HO]
  · intro k acc; exact drain_step5 d L (tile_body_v_of_steps.sl.dma0 m d L) hcF (m (evLoc d)) (Transfers.shareTok fullShare 32 (wL L)) O W _ k acc
  · unfold drainAt
    isplitr; · ipureintro; omega
    isplitr; · iexact Hmw
    isplitl [HO]
    · iexists _; isplitr
      rotate_left
      · iexact HO
      · ipureintro; intro p hp
        rcases Finset.mem_insert.mp hp with hp | hp
        · exact .inr (hp ▸ rfl)
        exact hWd4 p hp
    rw [if_pos (by decide), Nat.zero_mul]; iexact HB
  iintro %acc HD
  ihave HD' := (show drainAt d L (tile_body_v_of_steps.sl.dma0 m d L) hcF (m (evLoc d)) (Transfers.shareTok fullShare 32 (wL L)) 5 O W (Scf.trips k1_t17_loop.lb k1_t17_loop.ub k1_t17_loop.st) acc
      ⊢ iprop((∃ W', ⌜∀ p ∈ W', p ∈ W ∨ p.2 = none⌝ ∗ owes (thr d L) O W') ∗ semVal (thr d L, SemLoc.dma cc1_scratch4.sem) 0
          ∗ bigSep Finset.univ (Dv d L (tile_body_v_of_steps.sl.dma0 m d L) hcF (m (evLoc d)) (Transfers.shareTok fullShare 32 (wL L)) 5)) from by
    unfold drainAt
    rw [show Scf.trips k1_t17_loop.lb k1_t17_loop.ub k1_t17_loop.st = 64 from rfl, if_neg (Nat.lt_irrefl _)]
    iintro ⟨-, -, HO, Hc, Hall⟩
    isplitl [HO]; · iexact HO
    isplitl [Hc] <;> iassumption) $$ HD
  icases HD' with ⟨⟨%Wd5, %hWd5, HO⟩, Hc4', Hall⟩
  ihave Hcol := (collect' d L (tile_body_v_of_steps.sl.dma0 m d L) hcF (m (evLoc d)) (Transfers.shareTok fullShare 32 (wL L)) 5) $$ [Hall Htr]
  · isplitl [Hall] <;> iassumption
  icases Hcol with ⟨Hs1', Htoks⟩
  ihave Hev' := (toks_split d L (m (evLoc d)) (Transfers.shareTok fullShare 32 (wL L))).2 $$ [Hevrest Htoks]
  · isplitl [Hevrest] <;> iassumption
  -- chunk 5: the 64 elements' partial products
  sl_exec
  sl_for (EA 5 (tile_body_v_of_steps.sl.dma0 m d L) (m (evLoc d)) (tile_body_v_of_steps.sl.dma0_6 d L U)) $$ [Hs1' Hs2' Hs3']
  · intro e acc; exact helem5 _ _ hcen hU5 _ e acc
  · iapply (hEAin 5 (tile_body_v_of_steps.sl.dma0 m d L) (tile_body_v_of_steps.sl.dma0_6 d L U) pf4 hcen hU5 hP5)
    isplitl [Hs1']; · iexact Hs1'
    isplitl [Hs2'] <;> iassumption
  iintro %acc HE
  ihave HE' := (show EA 5 (tile_body_v_of_steps.sl.dma0 m d L) (m (evLoc d)) (tile_body_v_of_steps.sl.dma0_6 d L U) (Scf.trips k1_t18_loop.lb k1_t18_loop.ub k1_t18_loop.st) acc ⊢ _ from hEAout 5 (tile_body_v_of_steps.sl.dma0 m d L) (tile_body_v_of_steps.sl.dma0_6 d L U) acc) $$ HE
  icases HE' with ⟨%pf5, %hpf5, Hs1', Hs2', Hs3'⟩
  sl_exec
  rw [View.write_whole_univ]
  have hU6 : UjOK d L U 6 (tile_body_v_of_steps.sl.dma0_7 d L U) := fun y => by
    unfold tile_body_v_of_steps.sl.dma0_7
    exact read_urowsK d L U 6 y
  have hP6 : okBelow m d L U (1024 * ((6 : Fin 8) : ℕ)) pf5 := hpf5
  -- chunk 6: the gather's 64 copies issued on the one semaphore
  ihave Hrows := (rows_split d L _) $$ Hs1'
  ihave Htk := (toks_split d L (m (evLoc d)) (Transfers.shareTok fullShare 32 (wL L))).1 $$ Hev'
  icases Htk with ⟨Hevrest, Htoks⟩
  imod (Transfers.batch_alloc' (Lvl := ℕ) (countersEmb (U := UU)) (thr d L) (none : HIx 2) NR
    (Dv d L (tile_body_v_of_steps.sl.dma0 m d L) hcF (m (evLoc d)) (Transfers.shareTok fullShare 32 (wL L)) 6) (sm := .dma cc1_scratch4.sem) (E := Set.univ)) $$ Hc4' with HB
  sl_for (issueAt d L (tile_body_v_of_steps.sl.dma0 m d L) hcF (m (evLoc d)) (Transfers.shareTok fullShare 32 (wL L)) 6) $$ [HB Hs0' Hrows Htoks]
  · intro g acc; exact hissue6 _ hcF _ _ _ g acc
  · unfold issueAt
    isplitl [HB]; · iexact HB
    isplitl [Hs0']; · iexact Hs0'
    isplitl [Hrows]; · iexact Hrows
    isplitl [Htoks]; · iexact Htoks
    rw [Ring.bigSep_rangeSet_empty (le_refl _)]; iempintro
  iintro %acc HI
  ihave HI' := (show issueAt d L (tile_body_v_of_steps.sl.dma0 m d L) hcF (m (evLoc d)) (Transfers.shareTok fullShare 32 (wL L)) 6 (Scf.trips k1_t19_loop.lb k1_t19_loop.ub k1_t19_loop.st) acc
      ⊢ iprop(batch d L (tile_body_v_of_steps.sl.dma0 m d L) hcF (m (evLoc d)) (Transfers.shareTok fullShare 32 (wL L)) 6 64 0 ∗ ((s0).view.loc (thr d L) ↦{fullShare} (tile_body_v_of_steps.sl.dma0 m d L))
          ∗ bigSep (Ring.rangeSet 64 0 64) (tokRest d L (tile_body_v_of_steps.sl.dma0 m d L) hcF (m (evLoc d)) (Transfers.shareTok fullShare 32 (wL L)) 6)) from by
    unfold issueAt
    rw [show Scf.trips k1_t19_loop.lb k1_t19_loop.ub k1_t19_loop.st = 4 from rfl, Ring.bigSep_rangeSet_empty (le_refl _), Ring.bigSep_rangeSet_empty (le_refl _)]
    iintro ⟨HB, Hs, -, -, Hr⟩
    isplitl [HB]; · iexact HB
    isplitl [Hs]; · iexact Hs
    iexact Hr) $$ HI
  icases HI' with ⟨HB, Hs0', Htr⟩
  -- chunk 6: the 64 waits
  sl_exec
  sl_for (drainAt d L (tile_body_v_of_steps.sl.dma0 m d L) hcF (m (evLoc d)) (Transfers.shareTok fullShare 32 (wL L)) 6 O W) $$ [HB HO]
  · intro k acc; exact drain_step6 d L (tile_body_v_of_steps.sl.dma0 m d L) hcF (m (evLoc d)) (Transfers.shareTok fullShare 32 (wL L)) O W _ k acc
  · unfold drainAt
    isplitr; · ipureintro; omega
    isplitr; · iexact Hmw
    isplitl [HO]
    · iexists _; isplitr
      rotate_left
      · iexact HO
      · ipureintro; intro p hp
        rcases Finset.mem_insert.mp hp with hp | hp
        · exact .inr (hp ▸ rfl)
        exact hWd5 p hp
    rw [if_pos (by decide), Nat.zero_mul]; iexact HB
  iintro %acc HD
  ihave HD' := (show drainAt d L (tile_body_v_of_steps.sl.dma0 m d L) hcF (m (evLoc d)) (Transfers.shareTok fullShare 32 (wL L)) 6 O W (Scf.trips k1_t20_loop.lb k1_t20_loop.ub k1_t20_loop.st) acc
      ⊢ iprop((∃ W', ⌜∀ p ∈ W', p ∈ W ∨ p.2 = none⌝ ∗ owes (thr d L) O W') ∗ semVal (thr d L, SemLoc.dma cc1_scratch4.sem) 0
          ∗ bigSep Finset.univ (Dv d L (tile_body_v_of_steps.sl.dma0 m d L) hcF (m (evLoc d)) (Transfers.shareTok fullShare 32 (wL L)) 6)) from by
    unfold drainAt
    rw [show Scf.trips k1_t20_loop.lb k1_t20_loop.ub k1_t20_loop.st = 64 from rfl, if_neg (Nat.lt_irrefl _)]
    iintro ⟨-, -, HO, Hc, Hall⟩
    isplitl [HO]; · iexact HO
    isplitl [Hc] <;> iassumption) $$ HD
  icases HD' with ⟨⟨%Wd6, %hWd6, HO⟩, Hc4', Hall⟩
  ihave Hcol := (collect' d L (tile_body_v_of_steps.sl.dma0 m d L) hcF (m (evLoc d)) (Transfers.shareTok fullShare 32 (wL L)) 6) $$ [Hall Htr]
  · isplitl [Hall] <;> iassumption
  icases Hcol with ⟨Hs1', Htoks⟩
  ihave Hev' := (toks_split d L (m (evLoc d)) (Transfers.shareTok fullShare 32 (wL L))).2 $$ [Hevrest Htoks]
  · isplitl [Hevrest] <;> iassumption
  -- chunk 6: the 64 elements' partial products
  sl_exec
  sl_for (EA 6 (tile_body_v_of_steps.sl.dma0 m d L) (m (evLoc d)) (tile_body_v_of_steps.sl.dma0_7 d L U)) $$ [Hs1' Hs2' Hs3']
  · intro e acc; exact helem6 _ _ hcen hU6 e acc
  · iapply (hEAin 6 (tile_body_v_of_steps.sl.dma0 m d L) (tile_body_v_of_steps.sl.dma0_7 d L U) pf5 hcen hU6 hP6)
    isplitl [Hs1']; · iexact Hs1'
    isplitl [Hs2'] <;> iassumption
  iintro %acc HE
  ihave HE' := (show EA 6 (tile_body_v_of_steps.sl.dma0 m d L) (m (evLoc d)) (tile_body_v_of_steps.sl.dma0_7 d L U) (Scf.trips k1_t21_loop.lb k1_t21_loop.ub k1_t21_loop.st) acc ⊢ _ from hEAout 6 (tile_body_v_of_steps.sl.dma0 m d L) (tile_body_v_of_steps.sl.dma0_7 d L U) acc) $$ HE
  icases HE' with ⟨%pf6, %hpf6, Hs1', Hs2', Hs3'⟩
  sl_exec
  rw [View.write_whole_univ]
  have hU7 : UjOK d L U 7 (tile_body_v_of_steps.sl.dma0_8 d L U) := fun y => by
    unfold tile_body_v_of_steps.sl.dma0_8
    exact read_urowsK d L U 7 y
  have hP7 : okBelow m d L U (1024 * ((7 : Fin 8) : ℕ)) pf6 := hpf6
  -- chunk 7: the gather's 64 copies issued on the one semaphore
  ihave Hrows := (rows_split d L _) $$ Hs1'
  ihave Htk := (toks_split d L (m (evLoc d)) (Transfers.shareTok fullShare 32 (wL L))).1 $$ Hev'
  icases Htk with ⟨Hevrest, Htoks⟩
  imod (Transfers.batch_alloc' (Lvl := ℕ) (countersEmb (U := UU)) (thr d L) (none : HIx 2) NR
    (Dv d L (tile_body_v_of_steps.sl.dma0 m d L) hcF (m (evLoc d)) (Transfers.shareTok fullShare 32 (wL L)) 7) (sm := .dma cc1_scratch4.sem) (E := Set.univ)) $$ Hc4' with HB
  sl_for (issueAt d L (tile_body_v_of_steps.sl.dma0 m d L) hcF (m (evLoc d)) (Transfers.shareTok fullShare 32 (wL L)) 7) $$ [HB Hs0' Hrows Htoks]
  · intro g acc; exact hissue7 _ hcF _ _ g acc
  · unfold issueAt
    isplitl [HB]; · iexact HB
    isplitl [Hs0']; · iexact Hs0'
    isplitl [Hrows]; · iexact Hrows
    isplitl [Htoks]; · iexact Htoks
    rw [Ring.bigSep_rangeSet_empty (le_refl _)]; iempintro
  iintro %acc HI
  ihave HI' := (show issueAt d L (tile_body_v_of_steps.sl.dma0 m d L) hcF (m (evLoc d)) (Transfers.shareTok fullShare 32 (wL L)) 7 (Scf.trips k1_t22_loop.lb k1_t22_loop.ub k1_t22_loop.st) acc
      ⊢ iprop(batch d L (tile_body_v_of_steps.sl.dma0 m d L) hcF (m (evLoc d)) (Transfers.shareTok fullShare 32 (wL L)) 7 64 0 ∗ ((s0).view.loc (thr d L) ↦{fullShare} (tile_body_v_of_steps.sl.dma0 m d L))
          ∗ bigSep (Ring.rangeSet 64 0 64) (tokRest d L (tile_body_v_of_steps.sl.dma0 m d L) hcF (m (evLoc d)) (Transfers.shareTok fullShare 32 (wL L)) 7)) from by
    unfold issueAt
    rw [show Scf.trips k1_t22_loop.lb k1_t22_loop.ub k1_t22_loop.st = 4 from rfl, Ring.bigSep_rangeSet_empty (le_refl _), Ring.bigSep_rangeSet_empty (le_refl _)]
    iintro ⟨HB, Hs, -, -, Hr⟩
    isplitl [HB]; · iexact HB
    isplitl [Hs]; · iexact Hs
    iexact Hr) $$ HI
  icases HI' with ⟨HB, Hs0', Htr⟩
  -- chunk 7: the 64 waits
  sl_exec
  sl_for (drainAt d L (tile_body_v_of_steps.sl.dma0 m d L) hcF (m (evLoc d)) (Transfers.shareTok fullShare 32 (wL L)) 7 O W) $$ [HB HO]
  · intro k acc; exact drain_step7 d L (tile_body_v_of_steps.sl.dma0 m d L) hcF (m (evLoc d)) (Transfers.shareTok fullShare 32 (wL L)) O W k acc
  · unfold drainAt
    isplitr; · ipureintro; omega
    isplitr; · iexact Hmw
    isplitl [HO]
    · iexists _; isplitr
      rotate_left
      · iexact HO
      · ipureintro; intro p hp
        rcases Finset.mem_insert.mp hp with hp | hp
        · exact .inr (hp ▸ rfl)
        exact hWd6 p hp
    rw [if_pos (by decide), Nat.zero_mul]; iexact HB
  iintro %acc HD
  ihave HD' := (show drainAt d L (tile_body_v_of_steps.sl.dma0 m d L) hcF (m (evLoc d)) (Transfers.shareTok fullShare 32 (wL L)) 7 O W (Scf.trips k1_t23_loop.lb k1_t23_loop.ub k1_t23_loop.st) acc
      ⊢ iprop((∃ W', ⌜∀ p ∈ W', p ∈ W ∨ p.2 = none⌝ ∗ owes (thr d L) O W') ∗ semVal (thr d L, SemLoc.dma cc1_scratch4.sem) 0
          ∗ bigSep Finset.univ (Dv d L (tile_body_v_of_steps.sl.dma0 m d L) hcF (m (evLoc d)) (Transfers.shareTok fullShare 32 (wL L)) 7)) from by
    unfold drainAt
    rw [show Scf.trips k1_t23_loop.lb k1_t23_loop.ub k1_t23_loop.st = 64 from rfl, if_neg (Nat.lt_irrefl _)]
    iintro ⟨-, -, HO, Hc, Hall⟩
    isplitl [HO]; · iexact HO
    isplitl [Hc] <;> iassumption) $$ HD
  icases HD' with ⟨⟨%Wd7, %hWd7, HO⟩, Hc4', Hall⟩
  ihave Hcol := (collect' d L (tile_body_v_of_steps.sl.dma0 m d L) hcF (m (evLoc d)) (Transfers.shareTok fullShare 32 (wL L)) 7) $$ [Hall Htr]
  · isplitl [Hall] <;> iassumption
  icases Hcol with ⟨Hs1', Htoks⟩
  ihave Hev' := (toks_split d L (m (evLoc d)) (Transfers.shareTok fullShare 32 (wL L))).2 $$ [Hevrest Htoks]
  · isplitl [Hevrest] <;> iassumption
  -- chunk 7: the 64 elements' partial products
  sl_exec
  sl_for (EA 7 (tile_body_v_of_steps.sl.dma0 m d L) (m (evLoc d)) (tile_body_v_of_steps.sl.dma0_8 d L U)) $$ [Hs1' Hs2' Hs3']
  · intro e acc; exact helem7 _ _ hcen hU7 e acc
  · iapply (hEAin 7 (tile_body_v_of_steps.sl.dma0 m d L) (tile_body_v_of_steps.sl.dma0_8 d L U) pf6 hcen hU7 hP7)
    isplitl [Hs1']; · iexact Hs1'
    isplitl [Hs2'] <;> iassumption
  iintro %acc HE
  ihave HE' := (show EA 7 (tile_body_v_of_steps.sl.dma0 m d L) (m (evLoc d)) (tile_body_v_of_steps.sl.dma0_8 d L U) (Scf.trips k1_t24_loop.lb k1_t24_loop.ub k1_t24_loop.st) acc ⊢ _ from hEAout 7 (tile_body_v_of_steps.sl.dma0 m d L) (tile_body_v_of_steps.sl.dma0_8 d L U) acc) $$ HE
  icases HE' with ⟨%pf7, %hpf7, Hs1', Hs2', Hs3'⟩
  sl_exec
  sl_step
  -- what the last copy wrote into the subcore's slice of the partial products is their value
  have hpay : ∀ x : S8192.Idx, ((pW).slice (pposKRect L) (fun _ => rfl)).view.read (Elt F) (pposF m d U) x
      = (tile_body_v_of_steps.sl.dma0_9 d L pf7 : S8192.Idx → F .f32) x := fun x => by
    have hx : (x 0).val < 1024 * (((7 : Fin 8) : ℕ) + 1) := by
      have h1 : (x 0).val < 8192 := (x 0).isLt
      exact h1
    rw [read_pposK d L (pposF m d U) x, ← hpf7 x hx]
    unfold tile_body_v_of_steps.sl.dma0_9
    rfl
  have hppos : ∀ i ∈ (pposK L).view.set,
      (pposK L).view.writes (Elt F) f0 [⟨Rect.whole S8192, tile_body_v_of_steps.sl.dma0_9 d L pf7⟩] i = (pposF m d U : Buf (Elt F) (pposLoc d)) i :=
    TileVLand.writes_whole_eq_on (pposK L).view f0 (pposF m d U) _ hpay
  ihave Hpp'' := (Entails.of_eq (pointsTo_congr (ℓ := (pposK L).view.loc (thr d L)) (q := fullShare) hppos)) $$ Hpp'
  isplitl [Hcen' Hev' Hu0 Hu1 Hu2 Hu3 Hu4 Hu5 Hu6 Hu7 Hpp'']
  · isplitl [Hcen']; · iapply (Entails.of_eq (pts_center d L _)); iexact Hcen'
    isplitl [Hev']; · iapply (Entails.of_eq (pts_ev d L _ _)); iexact Hev'
    isplitl [Hu0 Hu1 Hu2 Hu3 Hu4 Hu5 Hu6 Hu7]
    · iapply (Entails.of_eq ((pts_urows d L _).trans (bigSep_fin8 _)).symm)
      isplitl [Hu0]; · iexact Hu0
      isplitl [Hu1]; · iexact Hu1
      isplitl [Hu2]; · iexact Hu2
      isplitl [Hu3]; · iexact Hu3
      isplitl [Hu4]; · iexact Hu4
      isplitl [Hu5]; · iexact Hu5
      isplitl [Hu6]; · iexact Hu6
      iexact Hu7
    · iapply (Entails.of_eq (pts_ppos d L _)); iexact Hpp''
  isplitl [Hs0' Hs1' Hs2' Hs3' Hbrest]
  · isplitr [Hbrest]
    · isplitl [Hs0']; · iexists _; iapply (Entails.of_eq (pts_s0 d L _)); iexact Hs0'
      isplitl [Hs1']; · iexists _; iapply (Entails.of_eq (pts_s1 d L _)); iexact Hs1'
      isplitl [Hs2']; · iexists _; iapply (Entails.of_eq (pts_s2 d L _)); iexact Hs2'
      iexists _; iapply (Entails.of_eq (pts_s3 d L _)); iexact Hs3'
    · iexact Hbrest
  isplitl [Hc4' Hr0' Hr1' Hr2' Hr3' Hr4' Hr5' Hr6' Hr7' Hr8' Hr9' Hsrest]
  · isplitr [Hsrest]
    · isplitl [Hc4']; · iexact Hc4'
      isplitl [Hr0']; · iexact Hr0'
      isplitl [Hr1']; · iexact Hr1'
      isplitl [Hr2']; · iexact Hr2'
      isplitl [Hr3']; · iexact Hr3'
      isplitl [Hr4']; · iexact Hr4'
      isplitl [Hr5']; · iexact Hr5'
      isplitl [Hr6']; · iexact Hr6'
      isplitl [Hr7']; · iexact Hr7'
      isplitl [Hr8']; · iexact Hr8'
      iexact Hr9'
    · iexact Hsrest
  iexists _; isplitr
  rotate_left
  · iexact HO
  · ipureintro; intro p hp
    rcases Finset.mem_insert.mp hp with hp | hp
    · exact .inr (hp ▸ rfl)
    exact hWd7 p hp

end Cert.Proof.TileV

end
-- ==== Proof.TileVLane.lean ====
/-
  The element trip's arithmetic, read at a lane. The trip loads four 16-lane pieces `v₀ … v₃` of a gathered
  table row and four pieces `u₀ … u₃` of a context row (each a `1 × 16` vector), and stores
  `((v₀·u₀ + v₁·u₁) + v₂·u₂) + v₃·u₃` lane-wise (a 16-lane vector). At lane `l` that is the scalar expression of
  the same shape over the pieces' entries `(0, l)`.
-/
import Idealize.ShloMosaic.PureOps
import Idealize.ShloMosaic.Lib.Pipeline.Value
import Idealize.ShloMosaic.Lib.ValueIdx

noncomputable section

namespace Cert.Proof.TileVLane

open Idealize.ShloMosaic Idealize.ShloMosaic.ValueIdx

variable {F : FTy → Type} [FloatOps F]

abbrev R16 : Shape := ⟨2, ![1, 16]⟩
abbrev V16 : Shape := ⟨1, ![16]⟩

/-- A `1 × 16` vector viewed as 16 lanes: lane `l` is entry `(0, l)`. -/
theorem cast16 {α : Type} (v : R16.Idx → α) (h : R16.ShapeCasts V16) (l : Fin 16) :
    shapeCast V16 v h (ix1 l) = v (ix2 (0 : Fin 1) l) := by
  refine shapeCast_apply v h (ix1 l) (ix2 (0 : Fin 1) l) ?_
  rw [Shape.rowMajor_val_two, Shape.rowMajor_val_one]
  show (0 : ℕ) * 16 + l.val = l.val
  omega

/-- The four lane-wise products, summed left to right. -/
def pay (h : R16.ShapeCasts V16) (v0 u0 v1 u1 v2 u2 v3 u3 : Vec F R16 .f32) : FVec F V16 .f32 :=
  addf (addf (addf (mulf (shapeCast V16 v0 h) (shapeCast V16 u0 h)) (mulf (shapeCast V16 v1 h) (shapeCast V16 u1 h)))
    (mulf (shapeCast V16 v2 h) (shapeCast V16 u2 h))) (mulf (shapeCast V16 v3 h) (shapeCast V16 u3 h))

theorem pay_apply (h : R16.ShapeCasts V16) (v0 u0 v1 u1 v2 u2 v3 u3 : Vec F R16 .f32) (l : Fin 16) :
    pay h v0 u0 v1 u1 v2 u2 v3 u3 (ix1 l)
      = FloatOps.addf (FloatOps.addf (FloatOps.addf (FloatOps.mulf (v0 (ix2 (0 : Fin 1) l)) (u0 (ix2 (0 : Fin 1) l)))
          (FloatOps.mulf (v1 (ix2 (0 : Fin 1) l)) (u1 (ix2 (0 : Fin 1) l)))) (FloatOps.mulf (v2 (ix2 (0 : Fin 1) l)) (u2 (ix2 (0 : Fin 1) l))))
          (FloatOps.mulf (v3 (ix2 (0 : Fin 1) l)) (u3 (ix2 (0 : Fin 1) l))) := by
  show FloatOps.addf (FloatOps.addf (FloatOps.addf (FloatOps.mulf (shapeCast V16 v0 h (ix1 l)) (shapeCast V16 u0 h (ix1 l)))
      (FloatOps.mulf (shapeCast V16 v1 h (ix1 l)) (shapeCast V16 u1 h (ix1 l)))) (FloatOps.mulf (shapeCast V16 v2 h (ix1 l)) (shapeCast V16 u2 h (ix1 l))))
      (FloatOps.mulf (shapeCast V16 v3 h (ix1 l)) (shapeCast V16 u3 h (ix1 l))) = _
  rw [cast16 v0, cast16 u0, cast16 v1, cast16 u1, cast16 v2, cast16 u2, cast16 v3, cast16 u3]

/-- An in-range index word, read unsigned, is the row it names reduced mod the table's extent. -/
theorem word_mod (w : BitVec 32) (h : w.toNat < 1000000) : w.toNat % 1000000 = w.toNat := Nat.mod_eq_of_lt h

end Cert.Proof.TileVLane

end
-- ==== Proof.TileVElemLem.lean ====
/-
  One element trip's value. Trip `e` of chunk `j`'s element loop reads the four 16-lane pieces of row `e` of the
  gathered rows and of the context rows, and stores the 16 lanes `((v₀·u₀ + v₁·u₁) + v₂·u₂) + v₃·u₃` at entries
  `[16(64j + e), 16(64j + e) + 16)` of the partial-products scratch. If the scratch agreed with a target array
  below entry `16(64j + e)`, and the target's next 16 entries are those lanes, the written scratch agrees with the
  target below entry `16(64j + e + 1)`.
-/
import proofs.«218857_g62938450756068_cont_9to1c4b_813_41_alg».proof.Proof.TileVInv
import proofs.«218857_g62938450756068_cont_9to1c4b_813_41_alg».proof.Proof.TileVLane

noncomputable section

namespace Cert.Proof.TileVElemLem

open Cert.KernelIdeal Cert.KernelIdeal.Gen Cert.Proof.KernelIdealBase Cert.Proof.TileVDefs Cert.Proof.TileVMem Cert.Proof.TileVInv

open Idealize.ShloMosaic
open Idealize.ShloMosaic.ValueIdx
open Idealize.ShloMosaic.SparseCore (S V T)
open Idealize.ShloMosaic.SparseCore.Cfg (HIx Pay)

variable {F : FTy → Type} [FloatOps F]

variable (d : Dev nD) (L : grid1.Coords)

/-- Lane `l` of the 16-lane piece at column `cc` of row `e` of the gathered rows is the scratch's `(e, cc + l)`. -/
theorem read_piece1 (G : Buf (Elt F) (l1 d L)) (e cc : ℕ) (off : Fin 2 → ℕ) (h : ∀ a, off a + S1x16.size a ≤ S64x64.size a)
    [c : ClosedOff off] (eform : c.form = ![e, cc]) (l : Fin 16) (he : e < 64) (hc : cc + l.val < 64) :
    View.readAt (Elt F) (s1).view (Rect.unit (s := S64x64) off S1x16.size h).toLoadRect G (ix2 (0 : Fin 1) l)
      = (G : S64x64.Idx → F .f32) (ix2 (⟨e, he⟩ : Fin 64) (⟨cc + l.val, hc⟩ : Fin 64)) := by
  have eoff : off = ![e, cc] := c.eq.trans eform
  subst eoff
  refine (View.read_apply (v := (s1).view) (Val := Elt F) G ((Rect.unit (s := S64x64) ![e, cc] S1x16.size h).toLoadRect.idx (ix2 (0 : Fin 1) l))).trans ?_
  refine (cast_eq _ _).trans (congrArg (G : S64x64.Idx → F .f32) ?_)
  funext a; apply Fin.ext
  match a with
  | ⟨0, _⟩ => show e + 1 * 0 = e; omega
  | ⟨1, _⟩ => show cc + 1 * l.val = cc + l.val; omega

/-- The same for the context-rows scratch. -/
theorem read_piece2 (Uj : Buf (Elt F) (l2 d L)) (e cc : ℕ) (off : Fin 2 → ℕ) (h : ∀ a, off a + S1x16.size a ≤ S64x64.size a)
    [c : ClosedOff off] (eform : c.form = ![e, cc]) (l : Fin 16) (he : e < 64) (hc : cc + l.val < 64) :
    View.readAt (Elt F) (s2).view (Rect.unit (s := S64x64) off S1x16.size h).toLoadRect Uj (ix2 (0 : Fin 1) l)
      = (Uj : S64x64.Idx → F .f32) (ix2 (⟨e, he⟩ : Fin 64) (⟨cc + l.val, hc⟩ : Fin 64)) := by
  have eoff : off = ![e, cc] := c.eq.trans eform
  subst eoff
  refine (View.read_apply (v := (s2).view) (Val := Elt F) Uj ((Rect.unit (s := S64x64) ![e, cc] S1x16.size h).toLoadRect.idx (ix2 (0 : Fin 1) l))).trans ?_
  refine (cast_eq _ _).trans (congrArg (Uj : S64x64.Idx → F .f32) ?_)
  funext a; apply Fin.ext
  match a with
  | ⟨0, _⟩ => show e + 1 * 0 = e; omega
  | ⟨1, _⟩ => show cc + 1 * l.val = cc + l.val; omega

/-- Lane `l` of what the trip stores, from the two scratch arrays. -/
def laneVal (G : Buf (Elt F) (l1 d L)) (Uj : Buf (Elt F) (l2 d L)) (e : Fin 64) (l : Fin 16) : F .f32 :=
  let v : Fin 4 → F .f32 := fun t => (G : S64x64.Idx → F .f32) (ix2 e (lane t l))
  let u : Fin 4 → F .f32 := fun t => (Uj : S64x64.Idx → F .f32) (ix2 e (lane t l))
  FloatOps.addf (FloatOps.addf (FloatOps.addf (FloatOps.mulf (v 0) (u 0)) (FloatOps.mulf (v 1) (u 1))) (FloatOps.mulf (v 2) (u 2))) (FloatOps.mulf (v 3) (u 3))

/-- One stored vector: if the scratch agreed with the target below entry `base` and the stored 16 lanes are the target's
    next 16 entries, the written scratch agrees with the target below entry `base + 16`. -/
theorem write_step (pf tgt : Buf (Elt F) (l3 d L))
    (op : Fin 1 → ℕ) (hp : ∀ a, op a + S16.size a ≤ S8192.size a) [cp : ClosedOff op] (base : ℕ) (ep : cp.form = ![base])
    (W : S16.Idx → F .f32)
    (hpf : ∀ y : S8192.Idx, (y 0).val < base → (pf : S8192.Idx → F .f32) y = (tgt : S8192.Idx → F .f32) y)
    (hW : ∀ (l : Fin 16) (hl : base + l.val < 8192), W (ix1 l) = (tgt : S8192.Idx → F .f32) (ix1 (⟨base + l.val, hl⟩ : Fin 8192))) :
    ∀ y : S8192.Idx, (y 0).val < base + 16 →
      ((s3).view.writes (Elt F) pf [⟨Rect.unit (s := S8192) op S16.size hp, W⟩] : S8192.Idx → F .f32) y = (tgt : S8192.Idx → F .f32) y := by
  have eop : op = ![base] := cp.eq.trans ep
  subst eop
  intro y hy
  have hy8 : (y 0).val < 8192 := (y 0).isLt
  by_cases hin : base ≤ (y 0).val
  · have hl : (y 0).val - base < 16 := by omega
    have hyeq : y = (Rect.unit (s := S8192) ![base] S16.size hp).emb (ix1 (⟨(y 0).val - base, hl⟩ : Fin 16)) := by
      funext a; apply Fin.ext
      match a with
      | ⟨0, _⟩ => show (y 0).val = base + 1 * ((y 0).val - base); omega
    have hw := View.read_writes_cons_emb (v := (s3).view) (Val := Elt F) pf (Rect.unit (s := S8192) ![base] S16.size hp) W []
      (ix1 (⟨(y 0).val - base, hl⟩ : Fin 16))
    rw [← hyeq] at hw
    refine hw.trans ?_
    refine (hW ⟨(y 0).val - base, hl⟩ (by show base + ((y 0).val - base) < 8192; omega)).trans ?_
    apply congrArg (tgt : S8192.Idx → F .f32)
    funext a; apply Fin.ext
    match a with
    | ⟨0, _⟩ => show base + ((y 0).val - base) = (y 0).val; omega
  · have hlt : (y 0).val < base := by omega
    have hnot : ∀ p ∈ ([⟨Rect.unit (s := S8192) ![base] S16.size hp, W⟩] : List (View.Piece (Elt F) S8192 .f32)), y ∉ p.1.set := by
      intro p hp'
      rw [List.mem_singleton] at hp'
      subst hp'
      rw [Rect.mem_set_unit]
      intro H
      have h0' : base ≤ (y 0).val ∧ (y 0).val < base + 16 := H 0
      omega
    exact (View.read_writes_apply_of_forall_not_mem (v := (s3).view) (Val := Elt F) pf y _ hnot).trans (hpf y hlt)

/-- Lane `l` of the stored vector is `laneVal`. -/
theorem pay_lane (G : Buf (Elt F) (l1 d L)) (Uj : Buf (Elt F) (l2 d L)) (e : Fin 64)
    (o0 o1 o2 o3 : Fin 2 → ℕ) (h0 : ∀ a, o0 a + S1x16.size a ≤ S64x64.size a) (h1 : ∀ a, o1 a + S1x16.size a ≤ S64x64.size a)
    (h2 : ∀ a, o2 a + S1x16.size a ≤ S64x64.size a) (h3 : ∀ a, o3 a + S1x16.size a ≤ S64x64.size a)
    [c0 : ClosedOff o0] [c1 : ClosedOff o1] [c2 : ClosedOff o2] [c3 : ClosedOff o3]
    (e0 : c0.form = ![e.val, 0]) (e1 : c1.form = ![e.val, 16]) (e2 : c2.form = ![e.val, 32]) (e3 : c3.form = ![e.val, 48])
    (hcast1 : S1x16.ShapeCasts S16) (hcast2 : S16.ShapeCasts S16) (l : Fin 16) :
    shapeCast S16 (TileVLane.pay hcast1
        (View.readAt (Elt F) (s1).view (Rect.unit (s := S64x64) o0 S1x16.size h0).toLoadRect G)
        (View.readAt (Elt F) (s2).view (Rect.unit (s := S64x64) o0 S1x16.size h0).toLoadRect Uj)
        (View.readAt (Elt F) (s1).view (Rect.unit (s := S64x64) o1 S1x16.size h1).toLoadRect G)
        (View.readAt (Elt F) (s2).view (Rect.unit (s := S64x64) o1 S1x16.size h1).toLoadRect Uj)
        (View.readAt (Elt F) (s1).view (Rect.unit (s := S64x64) o2 S1x16.size h2).toLoadRect G)
        (View.readAt (Elt F) (s2).view (Rect.unit (s := S64x64) o2 S1x16.size h2).toLoadRect Uj)
        (View.readAt (Elt F) (s1).view (Rect.unit (s := S64x64) o3 S1x16.size h3).toLoadRect G)
        (View.readAt (Elt F) (s2).view (Rect.unit (s := S64x64) o3 S1x16.size h3).toLoadRect Uj)) hcast2 (ix1 l)
      = laneVal d L G Uj e l := by
  have he : e.val < 64 := e.isLt
  have hl : l.val < 16 := l.isLt
  rw [shapeCast_self]
  refine (TileVLane.pay_apply hcast1 _ _ _ _ _ _ _ _ l).trans ?_
  rw [read_piece1 d L G e.val 0 o0 h0 e0 l he (by omega), read_piece2 d L Uj e.val 0 o0 h0 e0 l he (by omega),
    read_piece1 d L G e.val 16 o1 h1 e1 l he (by omega), read_piece2 d L Uj e.val 16 o1 h1 e1 l he (by omega),
    read_piece1 d L G e.val 32 o2 h2 e2 l he (by omega), read_piece2 d L Uj e.val 32 o2 h2 e2 l he (by omega),
    read_piece1 d L G e.val 48 o3 h3 e3 l he (by omega), read_piece2 d L Uj e.val 48 o3 h3 e3 l he (by omega)]
  rfl

end Cert.Proof.TileVElemLem

end
-- ==== Proof.TileVElemInv.lean ====
/-
  The element loop's invariant, and what it is about. After chunk `j`'s gather the gathered-rows scratch holds,
  in row `e`, the table row named by the centre word of the subcore's element `64j + e`; the context-rows scratch
  holds the subcore's context rows `64j … 64j + 63`. Trip `e` writes the 16 lanes of element `64j + e` into the
  partial-products scratch; before trip `e` the scratch already agrees with the kernel's result (the subcore's slice
  of `pposF`) below entry `16(64j + e)`.
-/
import proofs.«218857_g62938450756068_cont_9to1c4b_813_41_alg».proof.Proof.TileVElemLem

noncomputable section

namespace Cert.Proof.TileVElemInv

open Cert.KernelIdeal Cert.KernelIdeal.Gen Cert.Proof.KernelIdealBase Cert.Proof.TileVDefs Cert.Proof.TileVMem Cert.Proof.TileVInv
open Cert.Proof.TileVElemLem

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable (m : (ℓ : Loc nD τ sig) → Buf (Elt F) ℓ) (d : Dev nD) (L : grid1.Coords)

theorem center_inb (x : S512.Idx) : 512 * (wL L).val + (x 0).val < 16384 := by
  have h : (x 0).val < 512 := (x 0).isLt; have := (wL L).isLt; omega
theorem urow_inb (j : Fin 8) (y : S64x64.Idx) : 512 * (wL L).val + 64 * j.val + (y 0).val < 16384 := by
  have h : (y 0).val < 64 := (y 0).isLt; have := (wL L).isLt; have := j.isLt; omega
theorem ppos_inb (x : S8192.Idx) : 8192 * (wL L).val + (x 0).val < 262144 := by
  have h : (x 0).val < 8192 := (x 0).isLt; have := (wL L).isLt; omega

/-- The index scratch holds the subcore's centre words. -/
def CenOK (cF : Buf (Elt F) (l0 d L)) : Prop :=
  ∀ x : S512.Idx, (cF : S512.Idx → BitVec 32) x = (m (centerLoc d) : S16384.Idx → BitVec 32) (ix1 ⟨512 * (wL L).val + (x 0).val, center_inb L x⟩)

/-- The context-rows scratch holds chunk `j`'s rows of the context rows. -/
def UjOK (U : Buf (Elt F) (urowsLoc d)) (j : Fin 8) (Uj : Buf (Elt F) (l2 d L)) : Prop :=
  ∀ y : S64x64.Idx, (Uj : S64x64.Idx → F .f32) y
    = (U : S16384x64.Idx → F .f32) (ix2 ⟨512 * (wL L).val + 64 * j.val + (y 0).val, urow_inb L j y⟩ ⟨(y 1).val, (y 1).isLt⟩)

variable [FloatOps F]

/-- The partial-products scratch is right below position `n`. -/
def okBelow (U : Buf (Elt F) (urowsLoc d)) (n : ℕ) (pf : Buf (Elt F) (l3 d L)) : Prop :=
  ∀ x : S8192.Idx, (x 0).val < n →
    (pf : S8192.Idx → F .f32) x = (pposF m d U : S262144.Idx → F .f32) (ix1 ⟨8192 * (wL L).val + (x 0).val, ppos_inb L x⟩)

/-- The subcore's slice of the kernel's result, as the partial-products scratch is to hold it. -/
def tgtV (U : Buf (Elt F) (urowsLoc d)) : Buf (Elt F) (l3 d L) := fun x : S8192.Idx =>
  (pposF m d U : S262144.Idx → F .f32) (ix1 ⟨8192 * (wL L).val + (x 0).val, ppos_inb L x⟩)

/-- Before trip `e` of chunk `j`'s element loop. -/
def elemAt (U : Buf (Elt F) (urowsLoc d)) (j : Fin 8) (cF : Buf (Elt F) (l0 d L)) (ev : Buf (Elt F) (lev d L)) (Uj : Buf (Elt F) (l2 d L))
    (e : ℕ) (_ : Unit) : sProp 𝕄 :=
  iprop(((s1).view.loc (thr d L) ↦{fullShare} gath d L cF ev j) ∗ ((s2).view.loc (thr d L) ↦{fullShare} Uj)
    ∗ ∃ pf : Buf (Elt F) (l3 d L), ⌜okBelow m d L U (16 * (64 * j.val + e)) pf⌝ ∗ ((s3).view.loc (thr d L) ↦{fullShare} pf))

/-- The kernel's result at lane `l` of element `64j + e` of the subcore's slice is that lane of what trip `e` stores. -/
theorem tgt_lane (U : Buf (Elt F) (urowsLoc d)) (j : Fin 8) (cF : Buf (Elt F) (l0 d L)) (Uj : Buf (Elt F) (l2 d L))
    (hcen : CenOK m d L cF) (huj : UjOK d L U j Uj) (e : Fin 64) (l : Fin 16) (hl : 16 * (64 * j.val + e.val) + l.val < 8192) :
    (tgtV m d L U : S8192.Idx → F .f32) (ix1 (⟨16 * (64 * j.val + e.val) + l.val, hl⟩ : Fin 8192))
      = laneVal d L (gath d L cF (m (evLoc d)) j) Uj e l := by
  have hw := (wL L).isLt; have hj := j.isLt; have he := e.isLt; have hll := l.isLt
  have hb : (⟨(8192 * (wL L).val + (16 * (64 * j.val + e.val) + l.val)) / 16, by omega⟩ : Fin 16384)
      = ⟨512 * (wL L).val + 64 * j.val + e.val, by omega⟩ := Fin.ext (by show (8192 * (wL L).val + (16 * (64 * j.val + e.val) + l.val)) / 16 = 512 * (wL L).val + 64 * j.val + e.val; omega)
  have hl' : (⟨(8192 * (wL L).val + (16 * (64 * j.val + e.val) + l.val)) % 16, Nat.mod_lt _ (by decide)⟩ : Fin 16) = l :=
    Fin.ext (by show (8192 * (wL L).val + (16 * (64 * j.val + e.val) + l.val)) % 16 = l.val; omega)
  show pposAt m d U ⟨(8192 * (wL L).val + (16 * (64 * j.val + e.val) + l.val)) / 16, _⟩ ⟨(8192 * (wL L).val + (16 * (64 * j.val + e.val) + l.val)) % 16, _⟩ = _
  rw [hb, hl']
  have hrow : rowAt d L cF j e = centerRow m d ⟨512 * (wL L).val + 64 * j.val + e.val, by omega⟩ := by
    apply Fin.ext
    show ((cF : S512.Idx → BitVec 32) (ix1 ⟨64 * j.val + e.val, _⟩)).toNat % 1000000
      = ((m (centerLoc d) : S16384.Idx → BitVec 32) (ix1 ⟨512 * (wL L).val + 64 * j.val + e.val, _⟩)).toNat % 1000000
    rw [hcen]
    have : (⟨512 * (wL L).val + ((ix1 (⟨64 * j.val + e.val, by omega⟩ : Fin 512) : S512.Idx) 0).val, center_inb L _⟩ : Fin 16384)
        = ⟨512 * (wL L).val + 64 * j.val + e.val, by omega⟩ := Fin.ext (by show 512 * (wL L).val + (64 * j.val + e.val) = 512 * (wL L).val + 64 * j.val + e.val; omega)
    rw [this]
  have hu : ∀ c : Fin 64, (Uj : S64x64.Idx → F .f32) (ix2 e c)
      = (U : S16384x64.Idx → F .f32) (ix2 (⟨512 * (wL L).val + 64 * j.val + e.val, by omega⟩ : Fin 16384) c) := fun c => huj (ix2 e c)
  have hg : ∀ c : Fin 64, (gath d L cF (m (evLoc d)) j : S64x64.Idx → F .f32) (ix2 e c)
      = (m (evLoc d) : S1000000x64.Idx → F .f32) (ix2 (centerRow m d ⟨512 * (wL L).val + 64 * j.val + e.val, by omega⟩) c) := fun c => by
    show (m (evLoc d) : S1000000x64.Idx → F .f32) (ix2 (rowAt d L cF j e) c) = _
    rw [hrow]
  unfold pposAt laneVal
  simp only [hu, hg]

end Cert.Proof.TileVElemInv

end
-- ==== Proof.TileVElem0.lean ====
/-
  Chunk 0's element trip: trip `e` multiplies the four 16-lane pieces of gathered row `e` with those of context row
  `e`, sums them left to right, and stores the 16 lanes at entries `[16(0 + e), +16)` of the partial-products
  scratch; the scratch, right below entry `16(0 + e)` before, is right below entry `16(0 + e + 1)` after.
-/
import proofs.«218857_g62938450756068_cont_9to1c4b_813_41_alg».proof.Proof.TileVElemInv

set_option maxRecDepth 100000

noncomputable section

namespace Cert.Proof.TileVElem0

open Cert.KernelIdeal Cert.KernelIdeal.Gen Cert.Proof.KernelIdealBase Cert.Proof.TileVDefs Cert.Proof.TileVMem Cert.Proof.TileVInv
open Cert.Proof.TileVElemLem Cert.Proof.TileVElemInv

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (d : Dev nD) (L : grid1.Coords)

theorem elem_step0 [∀ e, Nonempty (Elt F e)] (U : Buf (Elt F) (urowsLoc d)) (cF : Buf (Elt F) (l0 d L)) (Uj : Buf (Elt F) (l2 d L))
    (hcen : CenOK m d L cF) (huj : UjOK d L U 0 Uj) (e : Fin k1_t3_loop.trips) (acc : Unit) :
    elemAt m d L U 0 cF (m (evLoc d)) Uj e.val acc
      ⊢ wp frame (wpE (defs₀ (F := F)) 𝒱₀ (thr d L) none) Set.univ
          (k1_t3_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 e acc)
          (elemAt m d L U 0 cF (m (evLoc d)) Uj (e.val + 1)) := by
  have he : e.val < 64 := e.isLt
  unfold elemAt
  iintro ⟨H1, H2, %pf, %hpf, H3⟩
  sl_unfold [k1_t3_body]
  sl_exec
  sl_step
  isplitl [H1]; · iexact H1
  isplitl [H2]; · iexact H2
  iexists _
  isplitr
  rotate_left
  · iexact H3
  · ipureintro
    intro x hx
    refine write_step d L pf (tgtV m d L U) (k1_off41 e) _ (16 * e.val) rfl _ ?_ ?_ x ?_
    · intro y hy
      exact hpf y (by show (y 0).val < 16 * (64 * 0 + e.val); omega)
    · intro l hl
      refine (pay_lane d L (gath d L cF (m (evLoc d)) 0) Uj ⟨e.val, he⟩ (k1_off37 e) (k1_off38 e) (k1_off39 e) (k1_off40 e) _ _ _ _ rfl rfl rfl rfl _ _ l).trans ?_
      refine (tgt_lane m d L U 0 cF Uj hcen huj ⟨e.val, he⟩ l (by show 16 * (64 * 0 + e.val) + l.val < 8192; omega)).symm.trans ?_
      apply congrArg (tgtV m d L U : S8192.Idx → F .f32)
      apply congrArg ix1
      apply Fin.ext
      show 16 * (64 * 0 + e.val) + l.val = 16 * e.val + l.val
      omega
    · have hx' : (x 0).val < 16 * (64 * 0 + (e.val + 1)) := hx
      omega

end Cert.Proof.TileVElem0

end
-- ==== Proof.TileVElem1.lean ====
/-
  Chunk 1's element trip: trip `e` multiplies the four 16-lane pieces of gathered row `e` with those of context row
  `e`, sums them left to right, and stores the 16 lanes at entries `[16(64 + e), +16)` of the partial-products
  scratch; the scratch, right below entry `16(64 + e)` before, is right below entry `16(64 + e + 1)` after.
-/
import proofs.«218857_g62938450756068_cont_9to1c4b_813_41_alg».proof.Proof.TileVElemInv

set_option maxRecDepth 100000

noncomputable section

namespace Cert.Proof.TileVElem1

open Cert.KernelIdeal Cert.KernelIdeal.Gen Cert.Proof.KernelIdealBase Cert.Proof.TileVDefs Cert.Proof.TileVMem Cert.Proof.TileVInv
open Cert.Proof.TileVElemLem Cert.Proof.TileVElemInv

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (d : Dev nD) (L : grid1.Coords)

theorem elem_step1 [∀ e, Nonempty (Elt F e)] (U : Buf (Elt F) (urowsLoc d)) (cF : Buf (Elt F) (l0 d L)) (Uj : Buf (Elt F) (l2 d L))
    (hcen : CenOK m d L cF) (huj : UjOK d L U 1 Uj) (v2 c0 : BitVec 32) (e : Fin k1_t6_loop.trips) (acc : Unit) :
    elemAt m d L U 1 cF (m (evLoc d)) Uj e.val acc
      ⊢ wp frame (wpE (defs₀ (F := F)) 𝒱₀ (thr d L) none) Set.univ
          (k1_t6_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 v2 c0 e acc)
          (elemAt m d L U 1 cF (m (evLoc d)) Uj (e.val + 1)) := by
  have he : e.val < 64 := e.isLt
  unfold elemAt
  iintro ⟨H1, H2, %pf, %hpf, H3⟩
  sl_unfold [k1_t6_body]
  sl_exec
  sl_step
  isplitl [H1]; · iexact H1
  isplitl [H2]; · iexact H2
  iexists _
  isplitr
  rotate_left
  · iexact H3
  · ipureintro
    intro x hx
    refine write_step d L pf (tgtV m d L U) (k1_off80 e) _ (16 * e.val + 1024) rfl _ ?_ ?_ x ?_
    · intro y hy
      exact hpf y (by show (y 0).val < 16 * (64 * 1 + e.val); omega)
    · intro l hl
      refine (pay_lane d L (gath d L cF (m (evLoc d)) 1) Uj ⟨e.val, he⟩ (k1_off76 e) (k1_off77 e) (k1_off78 e) (k1_off79 e) _ _ _ _ rfl rfl rfl rfl _ _ l).trans ?_
      refine (tgt_lane m d L U 1 cF Uj hcen huj ⟨e.val, he⟩ l (by show 16 * (64 * 1 + e.val) + l.val < 8192; omega)).symm.trans ?_
      apply congrArg (tgtV m d L U : S8192.Idx → F .f32)
      apply congrArg ix1
      apply Fin.ext
      show 16 * (64 * 1 + e.val) + l.val = 16 * e.val + 1024 + l.val
      omega
    · have hx' : (x 0).val < 16 * (64 * 1 + (e.val + 1)) := hx
      omega

end Cert.Proof.TileVElem1

end
-- ==== Proof.TileVElem2.lean ====
/-
  Chunk 2's element trip: trip `e` multiplies the four 16-lane pieces of gathered row `e` with those of context row
  `e`, sums them left to right, and stores the 16 lanes at entries `[16(128 + e), +16)` of the partial-products
  scratch; the scratch, right below entry `16(128 + e)` before, is right below entry `16(128 + e + 1)` after.
-/
import proofs.«218857_g62938450756068_cont_9to1c4b_813_41_alg».proof.Proof.TileVElemInv

set_option maxRecDepth 100000

noncomputable section

namespace Cert.Proof.TileVElem2

open Cert.KernelIdeal Cert.KernelIdeal.Gen Cert.Proof.KernelIdealBase Cert.Proof.TileVDefs Cert.Proof.TileVMem Cert.Proof.TileVInv
open Cert.Proof.TileVElemLem Cert.Proof.TileVElemInv

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (d : Dev nD) (L : grid1.Coords)

theorem elem_step2 [∀ e, Nonempty (Elt F e)] (U : Buf (Elt F) (urowsLoc d)) (cF : Buf (Elt F) (l0 d L)) (Uj : Buf (Elt F) (l2 d L))
    (hcen : CenOK m d L cF) (huj : UjOK d L U 2 Uj) (v2 c0 : BitVec 32) (e : Fin k1_t9_loop.trips) (acc : Unit) :
    elemAt m d L U 2 cF (m (evLoc d)) Uj e.val acc
      ⊢ wp frame (wpE (defs₀ (F := F)) 𝒱₀ (thr d L) none) Set.univ
          (k1_t9_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 v2 c0 e acc)
          (elemAt m d L U 2 cF (m (evLoc d)) Uj (e.val + 1)) := by
  have he : e.val < 64 := e.isLt
  unfold elemAt
  iintro ⟨H1, H2, %pf, %hpf, H3⟩
  sl_unfold [k1_t9_body]
  sl_exec
  sl_step
  isplitl [H1]; · iexact H1
  isplitl [H2]; · iexact H2
  iexists _
  isplitr
  rotate_left
  · iexact H3
  · ipureintro
    intro x hx
    refine write_step d L pf (tgtV m d L U) (k1_off119 e) _ (16 * e.val + 2048) rfl _ ?_ ?_ x ?_
    · intro y hy
      exact hpf y (by show (y 0).val < 16 * (64 * 2 + e.val); omega)
    · intro l hl
      refine (pay_lane d L (gath d L cF (m (evLoc d)) 2) Uj ⟨e.val, he⟩ (k1_off115 e) (k1_off116 e) (k1_off117 e) (k1_off118 e) _ _ _ _ rfl rfl rfl rfl _ _ l).trans ?_
      refine (tgt_lane m d L U 2 cF Uj hcen huj ⟨e.val, he⟩ l (by show 16 * (64 * 2 + e.val) + l.val < 8192; omega)).symm.trans ?_
      apply congrArg (tgtV m d L U : S8192.Idx → F .f32)
      apply congrArg ix1
      apply Fin.ext
      show 16 * (64 * 2 + e.val) + l.val = 16 * e.val + 2048 + l.val
      omega
    · have hx' : (x 0).val < 16 * (64 * 2 + (e.val + 1)) := hx
      omega

end Cert.Proof.TileVElem2

end
-- ==== Proof.TileVElem3.lean ====
/-
  Chunk 3's element trip: trip `e` multiplies the four 16-lane pieces of gathered row `e` with those of context row
  `e`, sums them left to right, and stores the 16 lanes at entries `[16(192 + e), +16)` of the partial-products
  scratch; the scratch, right below entry `16(192 + e)` before, is right below entry `16(192 + e + 1)` after.
-/
import proofs.«218857_g62938450756068_cont_9to1c4b_813_41_alg».proof.Proof.TileVElemInv

set_option maxRecDepth 100000

noncomputable section

namespace Cert.Proof.TileVElem3

open Cert.KernelIdeal Cert.KernelIdeal.Gen Cert.Proof.KernelIdealBase Cert.Proof.TileVDefs Cert.Proof.TileVMem Cert.Proof.TileVInv
open Cert.Proof.TileVElemLem Cert.Proof.TileVElemInv

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (d : Dev nD) (L : grid1.Coords)

theorem elem_step3 [∀ e, Nonempty (Elt F e)] (U : Buf (Elt F) (urowsLoc d)) (cF : Buf (Elt F) (l0 d L)) (Uj : Buf (Elt F) (l2 d L))
    (hcen : CenOK m d L cF) (huj : UjOK d L U 3 Uj) (v2 : BitVec 32) (e : Fin k1_t12_loop.trips) (acc : Unit) :
    elemAt m d L U 3 cF (m (evLoc d)) Uj e.val acc
      ⊢ wp frame (wpE (defs₀ (F := F)) 𝒱₀ (thr d L) none) Set.univ
          (k1_t12_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 v2 e acc)
          (elemAt m d L U 3 cF (m (evLoc d)) Uj (e.val + 1)) := by
  have he : e.val < 64 := e.isLt
  unfold elemAt
  iintro ⟨H1, H2, %pf, %hpf, H3⟩
  sl_unfold [k1_t12_body]
  sl_exec
  sl_step
  isplitl [H1]; · iexact H1
  isplitl [H2]; · iexact H2
  iexists _
  isplitr
  rotate_left
  · iexact H3
  · ipureintro
    intro x hx
    refine write_step d L pf (tgtV m d L U) (k1_off158 e) _ (16 * e.val + 3072) rfl _ ?_ ?_ x ?_
    · intro y hy
      exact hpf y (by show (y 0).val < 16 * (64 * 3 + e.val); omega)
    · intro l hl
      refine (pay_lane d L (gath d L cF (m (evLoc d)) 3) Uj ⟨e.val, he⟩ (k1_off154 e) (k1_off155 e) (k1_off156 e) (k1_off157 e) _ _ _ _ rfl rfl rfl rfl _ _ l).trans ?_
      refine (tgt_lane m d L U 3 cF Uj hcen huj ⟨e.val, he⟩ l (by show 16 * (64 * 3 + e.val) + l.val < 8192; omega)).symm.trans ?_
      apply congrArg (tgtV m d L U : S8192.Idx → F .f32)
      apply congrArg ix1
      apply Fin.ext
      show 16 * (64 * 3 + e.val) + l.val = 16 * e.val + 3072 + l.val
      omega
    · have hx' : (x 0).val < 16 * (64 * 3 + (e.val + 1)) := hx
      omega

end Cert.Proof.TileVElem3

end
-- ==== Proof.TileVElem4.lean ====
/-
  Chunk 4's element trip: trip `e` multiplies the four 16-lane pieces of gathered row `e` with those of context row
  `e`, sums them left to right, and stores the 16 lanes at entries `[16(256 + e), +16)` of the partial-products
  scratch; the scratch, right below entry `16(256 + e)` before, is right below entry `16(256 + e + 1)` after.
-/
import proofs.«218857_g62938450756068_cont_9to1c4b_813_41_alg».proof.Proof.TileVElemInv

set_option maxRecDepth 100000

noncomputable section

namespace Cert.Proof.TileVElem4

open Cert.KernelIdeal Cert.KernelIdeal.Gen Cert.Proof.KernelIdealBase Cert.Proof.TileVDefs Cert.Proof.TileVMem Cert.Proof.TileVInv
open Cert.Proof.TileVElemLem Cert.Proof.TileVElemInv

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (d : Dev nD) (L : grid1.Coords)

theorem elem_step4 [∀ e, Nonempty (Elt F e)] (U : Buf (Elt F) (urowsLoc d)) (cF : Buf (Elt F) (l0 d L)) (Uj : Buf (Elt F) (l2 d L))
    (hcen : CenOK m d L cF) (huj : UjOK d L U 4 Uj) (v2 : BitVec 32) (e : Fin k1_t15_loop.trips) (acc : Unit) :
    elemAt m d L U 4 cF (m (evLoc d)) Uj e.val acc
      ⊢ wp frame (wpE (defs₀ (F := F)) 𝒱₀ (thr d L) none) Set.univ
          (k1_t15_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 v2 e acc)
          (elemAt m d L U 4 cF (m (evLoc d)) Uj (e.val + 1)) := by
  have he : e.val < 64 := e.isLt
  unfold elemAt
  iintro ⟨H1, H2, %pf, %hpf, H3⟩
  sl_unfold [k1_t15_body]
  sl_exec
  sl_step
  isplitl [H1]; · iexact H1
  isplitl [H2]; · iexact H2
  iexists _
  isplitr
  rotate_left
  · iexact H3
  · ipureintro
    intro x hx
    refine write_step d L pf (tgtV m d L U) (k1_off197 e) _ (16 * e.val + 4096) rfl _ ?_ ?_ x ?_
    · intro y hy
      exact hpf y (by show (y 0).val < 16 * (64 * 4 + e.val); omega)
    · intro l hl
      refine (pay_lane d L (gath d L cF (m (evLoc d)) 4) Uj ⟨e.val, he⟩ (k1_off193 e) (k1_off194 e) (k1_off195 e) (k1_off196 e) _ _ _ _ rfl rfl rfl rfl _ _ l).trans ?_
      refine (tgt_lane m d L U 4 cF Uj hcen huj ⟨e.val, he⟩ l (by show 16 * (64 * 4 + e.val) + l.val < 8192; omega)).symm.trans ?_
      apply congrArg (tgtV m d L U : S8192.Idx → F .f32)
      apply congrArg ix1
      apply Fin.ext
      show 16 * (64 * 4 + e.val) + l.val = 16 * e.val + 4096 + l.val
      omega
    · have hx' : (x 0).val < 16 * (64 * 4 + (e.val + 1)) := hx
      omega

end Cert.Proof.TileVElem4

end
-- ==== Proof.TileVElem5.lean ====
/-
  Chunk 5's element trip: trip `e` multiplies the four 16-lane pieces of gathered row `e` with those of context row
  `e`, sums them left to right, and stores the 16 lanes at entries `[16(320 + e), +16)` of the partial-products
  scratch; the scratch, right below entry `16(320 + e)` before, is right below entry `16(320 + e + 1)` after.
-/
import proofs.«218857_g62938450756068_cont_9to1c4b_813_41_alg».proof.Proof.TileVElemInv

set_option maxRecDepth 100000

noncomputable section

namespace Cert.Proof.TileVElem5

open Cert.KernelIdeal Cert.KernelIdeal.Gen Cert.Proof.KernelIdealBase Cert.Proof.TileVDefs Cert.Proof.TileVMem Cert.Proof.TileVInv
open Cert.Proof.TileVElemLem Cert.Proof.TileVElemInv

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (d : Dev nD) (L : grid1.Coords)

theorem elem_step5 [∀ e, Nonempty (Elt F e)] (U : Buf (Elt F) (urowsLoc d)) (cF : Buf (Elt F) (l0 d L)) (Uj : Buf (Elt F) (l2 d L))
    (hcen : CenOK m d L cF) (huj : UjOK d L U 5 Uj) (v2 : BitVec 32) (e : Fin k1_t18_loop.trips) (acc : Unit) :
    elemAt m d L U 5 cF (m (evLoc d)) Uj e.val acc
      ⊢ wp frame (wpE (defs₀ (F := F)) 𝒱₀ (thr d L) none) Set.univ
          (k1_t18_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 v2 e acc)
          (elemAt m d L U 5 cF (m (evLoc d)) Uj (e.val + 1)) := by
  have he : e.val < 64 := e.isLt
  unfold elemAt
  iintro ⟨H1, H2, %pf, %hpf, H3⟩
  sl_unfold [k1_t18_body]
  sl_exec
  sl_step
  isplitl [H1]; · iexact H1
  isplitl [H2]; · iexact H2
  iexists _
  isplitr
  rotate_left
  · iexact H3
  · ipureintro
    intro x hx
    refine write_step d L pf (tgtV m d L U) (k1_off236 e) _ (16 * e.val + 5120) rfl _ ?_ ?_ x ?_
    · intro y hy
      exact hpf y (by show (y 0).val < 16 * (64 * 5 + e.val); omega)
    · intro l hl
      refine (pay_lane d L (gath d L cF (m (evLoc d)) 5) Uj ⟨e.val, he⟩ (k1_off232 e) (k1_off233 e) (k1_off234 e) (k1_off235 e) _ _ _ _ rfl rfl rfl rfl _ _ l).trans ?_
      refine (tgt_lane m d L U 5 cF Uj hcen huj ⟨e.val, he⟩ l (by show 16 * (64 * 5 + e.val) + l.val < 8192; omega)).symm.trans ?_
      apply congrArg (tgtV m d L U : S8192.Idx → F .f32)
      apply congrArg ix1
      apply Fin.ext
      show 16 * (64 * 5 + e.val) + l.val = 16 * e.val + 5120 + l.val
      omega
    · have hx' : (x 0).val < 16 * (64 * 5 + (e.val + 1)) := hx
      omega

end Cert.Proof.TileVElem5

end
-- ==== Proof.TileVElem6.lean ====
/-
  Chunk 6's element trip: trip `e` multiplies the four 16-lane pieces of gathered row `e` with those of context row
  `e`, sums them left to right, and stores the 16 lanes at entries `[16(384 + e), +16)` of the partial-products
  scratch; the scratch, right below entry `16(384 + e)` before, is right below entry `16(384 + e + 1)` after.
-/
import proofs.«218857_g62938450756068_cont_9to1c4b_813_41_alg».proof.Proof.TileVElemInv

set_option maxRecDepth 100000

noncomputable section

namespace Cert.Proof.TileVElem6

open Cert.KernelIdeal Cert.KernelIdeal.Gen Cert.Proof.KernelIdealBase Cert.Proof.TileVDefs Cert.Proof.TileVMem Cert.Proof.TileVInv
open Cert.Proof.TileVElemLem Cert.Proof.TileVElemInv

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (d : Dev nD) (L : grid1.Coords)

theorem elem_step6 [∀ e, Nonempty (Elt F e)] (U : Buf (Elt F) (urowsLoc d)) (cF : Buf (Elt F) (l0 d L)) (Uj : Buf (Elt F) (l2 d L))
    (hcen : CenOK m d L cF) (huj : UjOK d L U 6 Uj) (e : Fin k1_t21_loop.trips) (acc : Unit) :
    elemAt m d L U 6 cF (m (evLoc d)) Uj e.val acc
      ⊢ wp frame (wpE (defs₀ (F := F)) 𝒱₀ (thr d L) none) Set.univ
          (k1_t21_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 e acc)
          (elemAt m d L U 6 cF (m (evLoc d)) Uj (e.val + 1)) := by
  have he : e.val < 64 := e.isLt
  unfold elemAt
  iintro ⟨H1, H2, %pf, %hpf, H3⟩
  sl_unfold [k1_t21_body]
  sl_exec
  sl_step
  isplitl [H1]; · iexact H1
  isplitl [H2]; · iexact H2
  iexists _
  isplitr
  rotate_left
  · iexact H3
  · ipureintro
    intro x hx
    refine write_step d L pf (tgtV m d L U) (k1_off275 e) _ (16 * e.val + 6144) rfl _ ?_ ?_ x ?_
    · intro y hy
      exact hpf y (by show (y 0).val < 16 * (64 * 6 + e.val); omega)
    · intro l hl
      refine (pay_lane d L (gath d L cF (m (evLoc d)) 6) Uj ⟨e.val, he⟩ (k1_off271 e) (k1_off272 e) (k1_off273 e) (k1_off274 e) _ _ _ _ rfl rfl rfl rfl _ _ l).trans ?_
      refine (tgt_lane m d L U 6 cF Uj hcen huj ⟨e.val, he⟩ l (by show 16 * (64 * 6 + e.val) + l.val < 8192; omega)).symm.trans ?_
      apply congrArg (tgtV m d L U : S8192.Idx → F .f32)
      apply congrArg ix1
      apply Fin.ext
      show 16 * (64 * 6 + e.val) + l.val = 16 * e.val + 6144 + l.val
      omega
    · have hx' : (x 0).val < 16 * (64 * 6 + (e.val + 1)) := hx
      omega

end Cert.Proof.TileVElem6

end
-- ==== Proof.TileVElem7.lean ====
/-
  Chunk 7's element trip: trip `e` multiplies the four 16-lane pieces of gathered row `e` with those of context row
  `e`, sums them left to right, and stores the 16 lanes at entries `[16(448 + e), +16)` of the partial-products
  scratch; the scratch, right below entry `16(448 + e)` before, is right below entry `16(448 + e + 1)` after.
-/
import proofs.«218857_g62938450756068_cont_9to1c4b_813_41_alg».proof.Proof.TileVElemInv

set_option maxRecDepth 100000

noncomputable section

namespace Cert.Proof.TileVElem7

open Cert.KernelIdeal Cert.KernelIdeal.Gen Cert.Proof.KernelIdealBase Cert.Proof.TileVDefs Cert.Proof.TileVMem Cert.Proof.TileVInv
open Cert.Proof.TileVElemLem Cert.Proof.TileVElemInv

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (d : Dev nD) (L : grid1.Coords)

theorem elem_step7 [∀ e, Nonempty (Elt F e)] (U : Buf (Elt F) (urowsLoc d)) (cF : Buf (Elt F) (l0 d L)) (Uj : Buf (Elt F) (l2 d L))
    (hcen : CenOK m d L cF) (huj : UjOK d L U 7 Uj) (e : Fin k1_t24_loop.trips) (acc : Unit) :
    elemAt m d L U 7 cF (m (evLoc d)) Uj e.val acc
      ⊢ wp frame (wpE (defs₀ (F := F)) 𝒱₀ (thr d L) none) Set.univ
          (k1_t24_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 e acc)
          (elemAt m d L U 7 cF (m (evLoc d)) Uj (e.val + 1)) := by
  have he : e.val < 64 := e.isLt
  unfold elemAt
  iintro ⟨H1, H2, %pf, %hpf, H3⟩
  sl_unfold [k1_t24_body]
  sl_exec
  sl_step
  isplitl [H1]; · iexact H1
  isplitl [H2]; · iexact H2
  iexists _
  isplitr
  rotate_left
  · iexact H3
  · ipureintro
    intro x hx
    refine write_step d L pf (tgtV m d L U) (k1_off314 e) _ (16 * e.val + 7168) rfl _ ?_ ?_ x ?_
    · intro y hy
      exact hpf y (by show (y 0).val < 16 * (64 * 7 + e.val); omega)
    · intro l hl
      refine (pay_lane d L (gath d L cF (m (evLoc d)) 7) Uj ⟨e.val, he⟩ (k1_off310 e) (k1_off311 e) (k1_off312 e) (k1_off313 e) _ _ _ _ rfl rfl rfl rfl _ _ l).trans ?_
      refine (tgt_lane m d L U 7 cF Uj hcen huj ⟨e.val, he⟩ l (by show 16 * (64 * 7 + e.val) + l.val < 8192; omega)).symm.trans ?_
      apply congrArg (tgtV m d L U : S8192.Idx → F .f32)
      apply congrArg ix1
      apply Fin.ext
      show 16 * (64 * 7 + e.val) + l.val = 16 * e.val + 7168 + l.val
      omega
    · have hx' : (x 0).val < 16 * (64 * 7 + (e.val + 1)) := hx
      omega

end Cert.Proof.TileVElem7

end
-- ==== Proof.TileVRow.lean ====
/-
  A row of an `n × 64` array viewed as a 64-entry vector (its unit leading axis dropped): which element of the
  array an entry of the row is.
-/
import proofs.«218857_g62938450756068_cont_9to1c4b_813_41_alg».proof.Proof.TileVRect

namespace Cert.Proof.TileVRect

open Idealize.ShloMosaic Idealize.ShloMosaic.ValueIdx

/-- Entry `x` of row `r` of an `n × 64` array, the row viewed as a 64-entry vector: the array's `(r, x)`. -/
theorem emb_row64 {n : ℕ} (r : ℕ) (h : ∀ a, (![r, 0] : Fin 2 → ℕ) a + (![1, 64] : Fin 2 → ℕ) a ≤ (⟨2, ![n, 64]⟩ : Shape).size a)
    (hnum : (⟨1, ![64]⟩ : Shape).numel = (⟨2, ![1, 64]⟩ : Shape).numel) (x : (⟨1, ![64]⟩ : Shape).Idx) (hr : r < n) :
    (Rect.unit (s := ⟨2, ![n, 64]⟩) ![r, 0] ![1, 64] h).emb (Shape.reshapeEquiv hnum x)
      = ix2 (⟨r, hr⟩ : Fin n) (⟨(x 0).val, (x 0).isLt⟩ : Fin 64) := by
  rw [reshape_row]
  funext a; apply Fin.ext
  rw [Rect.emb_apply]
  match a with
  | ⟨0, _⟩ => show r + 1 * 0 = r; omega
  | ⟨1, _⟩ => show 0 + 1 * (x 0).val = (x 0).val; omega

end Cert.Proof.TileVRect
-- ==== Proof.TileVIssueLem.lean ====
/-
  One row copy of a chunk's gather, as the batch sees it. The copy lands the table's row named by an index word
  in a row of the gathered-rows scratch; what it delivers — the scratch row at the landed contents beside the read
  share of the source row — is the batch's stated delivery for that transfer: on the scratch row's elements the
  landed buffer is the chunk's gathered array, because the row read through the source's view is the table's row
  at the word, and the word is below the table's extent.
-/
import proofs.«218857_g62938450756068_cont_9to1c4b_813_41_alg».proof.Proof.TileVInv
import proofs.«218857_g62938450756068_cont_9to1c4b_813_41_alg».proof.Proof.TileVRow

noncomputable section

namespace Cert.Proof.TileVIssueLem

open Cert.KernelIdeal Cert.KernelIdeal.Gen Cert.Proof.KernelIdealBase Cert.Proof.TileVDefs Cert.Proof.TileVMem Cert.Proof.TileVInv

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-- A row of the gathered-rows scratch at given offsets, as the body spells a row copy's destination. -/
def rowM (off : Fin 2 → ℕ) (h : ∀ a, off a + S1x64.size a ≤ S64x64.size a) : Memref sig .scVector .vmem S64 .f32 :=
  ((s1).slice (Rect.unit (s := S64x64) off S1x64.size h) (fun _ => rfl)).squeeze S64 Shapes1.Facts₀.squeezes_S1x64_S64

theorem set_rowM (t : Fin 64) (off : Fin 2 → ℕ) (h : ∀ a, off a + S1x64.size a ≤ S64x64.size a) (e : off = ![t.val, 0]) :
    (rowM off h).view.set = (vRowRect t).set := by
  subst e
  unfold rowM
  show (((View.whole (cc1_scratch1 : Ref sig .scVector)).slice _).reshape S64 _).set = _
  rw [View.set_reshape, View.set_slice_whole]

/-- Entry `x` of the row is the scratch's `(t, x)`. -/
theorem emb_rowM (t : Fin 64) (h : ∀ a, (![t.val, 0] : Fin 2 → ℕ) a + S1x64.size a ≤ S64x64.size a) (x : S64.Idx) :
    (rowM ![t.val, 0] h).view.emb x = (ix2 t (⟨(x 0).val, (x 0).isLt⟩ : Fin 64) : S64x64.Idx) := by
  exact TileVRect.emb_row64 (n := 64) t.val h _ x t.isLt

/-- Entry `x` of table row `v` is the table's `(v, x)`. -/
theorem emb_evRow (v : BitVec 32) (hv : ∀ a, (![v.toNat, 0] : Fin 2 → ℕ) a + S1x64.size a ≤ S1000000x64.size a) (hlt : v.toNat < 1000000)
    (x : S64.Idx) :
    (evRow v hv).view.emb x = (ix2 (⟨v.toNat, hlt⟩ : Fin 1000000) (⟨(x 0).val, (x 0).isLt⟩ : Fin 64) : S1000000x64.Idx) := by
  exact TileVRect.emb_row64 (n := 1000000) v.toNat hv _ x hlt

theorem set_evRow (v : BitVec 32) (hv : ∀ a, (![v.toNat, 0] : Fin 2 → ℕ) a + S1x64.size a ≤ S1000000x64.size a) :
    (evRow v hv).view.set = (evRowRect v hv).set := by
  unfold evRow
  show (((View.whole (main_arg3_scv : Ref sig .scVector)).slice _).reshape S64 _).set = _
  rw [View.set_reshape, View.set_slice_whole]

variable (d : Dev nD) (L : grid1.Coords)
variable (cF : Buf (Elt F) (l0 d L)) (hcF : ∀ x : S512.Idx, ((cF : S512.Idx → BitVec 32) x).toNat < 1000000)
variable (ev : Buf (Elt F) (lev d L)) (q : PosShare TreeShare)

/-- THE DELIVERY of transfer `t` of chunk `j`'s batch, from what the copy leaves: the scratch row (spelt at the body's
    offsets `off`, equal to `![t, 0]` through their closed form) holding one whole-row write of what the source row
    reads, and the source row (at the body's index word `v`, which is element `t`'s word) at read token `n = t`. -/
theorem deliver (j : Fin 8) (t : Fin 64) (off : Fin 2 → ℕ) (hoff : ∀ a, off a + S1x64.size a ≤ S64x64.size a)
    [c : ClosedOff off] (eform : c.form = ![t.val, 0])
    (v : BitVec 32) (hv : ∀ a, (![v.toNat, 0] : Fin 2 → ℕ) a + S1x64.size a ≤ S1000000x64.size a) (ew : v = wd d L cF j t)
    (fd : Buf (Elt F) ((rowM off hoff).view.loc (thr d L))) (X : (Rect.whole S64).shape.Idx → F .f32)
    (hX : X = ReadAs.same.apply ((evRow v hv).view.read (Elt F) ev)) (n : ℕ) (hn : n = t.val) :
    iprop(((rowM off hoff).view.loc (thr d L) ↦[(rowM off hoff).view.set]{fullShare} (rowM off hoff).view.writes (Elt F) fd [⟨Rect.whole S64, X⟩])
        ∗ ((evW).view.loc (thr d L) ↦[(evRow v hv).view.set]{Transfers.shareTokN q n} ev))
      ⊢ Dv d L cF hcF ev q j t := by
  have eoff : off = ![t.val, 0] := c.eq.trans eform
  subst eoff; subst ew; subst hn; subst hX
  have hlt : (wd d L cF j t).toNat < 1000000 := hcF _
  -- the scratch row read through its view is the source row read through its own
  have hread : ∀ x : S64.Idx, (rowM ![t.val, 0] hoff).view.read (Elt F) (gath d L cF ev j) x
      = ReadAs.same.apply ((evRow (wd d L cF j t) hv).view.read (Elt F) ev) x := fun x => by
    have e1 : (rowM ![t.val, 0] hoff).view.read (Elt F) (gath d L cF ev j) x
        = (gath d L cF ev j : S64x64.Idx → F .f32) (ix2 t (⟨(x 0).val, (x 0).isLt⟩ : Fin 64)) :=
      (cast_eq _ _).trans (congrArg (gath d L cF ev j : S64x64.Idx → F .f32) (emb_rowM t hoff x))
    have e2 : (evRow (wd d L cF j t) hv).view.read (Elt F) ev x
        = (ev : S1000000x64.Idx → F .f32) (ix2 (⟨(wd d L cF j t).toNat, hlt⟩ : Fin 1000000) (⟨(x 0).val, (x 0).isLt⟩ : Fin 64)) :=
      (cast_eq _ _).trans (congrArg (ev : S1000000x64.Idx → F .f32) (emb_evRow _ hv hlt x))
    have e3 : rowAt d L cF j t = (⟨(wd d L cF j t).toNat, hlt⟩ : Fin 1000000) := Fin.ext (Nat.mod_eq_of_lt hlt)
    refine e1.trans (Eq.trans ?_ e2.symm)
    show (ev : S1000000x64.Idx → F .f32) (ix2 (rowAt d L cF j t) (⟨(x 0).val, (x 0).isLt⟩ : Fin 64)) = _
    rw [e3]
  have hval := TileVLand.writes_whole_eq_on (rowM ![t.val, 0] hoff).view fd (gath d L cF ev j) _ hread
  have hEq1 : ((rowM ![t.val, 0] hoff).view.loc (thr d L) ↦[(rowM ![t.val, 0] hoff).view.set]{fullShare}
        (rowM ![t.val, 0] hoff).view.writes (Elt F) fd [⟨Rect.whole S64, ReadAs.same.apply ((evRow (wd d L cF j t) hv).view.read (Elt F) ev)⟩] : sProp 𝕄)
      = (l1 d L ↦[(vRowRect t).set]{fullShare} gath d L cF ev j) :=
    (pointsTo_congr hval).trans (congrArg (fun S => (l1 d L ↦[S]{fullShare} gath d L cF ev j : sProp 𝕄)) (set_rowM t _ hoff rfl))
  have hEq2 : ((evW).view.loc (thr d L) ↦[(evRow (wd d L cF j t) hv).view.set]{Transfers.shareTokN q t.val} ev : sProp 𝕄)
      = (lev d L ↦[(evRowRect (wd d L cF j t) (wd_inb d L cF hcF j t)).set]{Transfers.shareTokN q t.val} ev) :=
    congrArg (fun S => (lev d L ↦[S]{Transfers.shareTokN q t.val} ev : sProp 𝕄)) (set_evRow _ hv)
  unfold Dv
  exact BIClass.sep_mono (Entails.of_eq hEq1) (Entails.of_eq hEq2)

end Cert.Proof.TileVIssueLem

end
-- ==== Proof.TileVLaneI.lean ====
/-
  A lane of 16 loaded index words: the word a trip extracts at lane `o` (a one-entry slice at offset `o`, then its
  only entry) is entry `o` of the loaded vector.
-/
import Idealize.ShloMosaic.PureOps
import Idealize.ShloMosaic.Lib.Pipeline.Value
import Idealize.ShloMosaic.Lib.ValueIdx

namespace Cert.Proof.TileVLaneI

open Idealize.ShloMosaic Idealize.ShloMosaic.ValueIdx

abbrev V16 : Shape := ⟨1, ![16]⟩
abbrev V1 : Shape := ⟨1, ![1]⟩

theorem lane_entry {α : Type} (V : V16.Idx → α) (o : ℕ) (hc : V16.ShapeCasts V16) (hs : V16.Slices ![o] V1)
    (hp : ∀ a, (![0] : Fin 1 → ℕ) a < V1.size a) (ho : o < 16) :
    extractAt ![0] (extractStridedSlice V1 ![o] (shapeCast V16 V hc) hs) hp = V (ix1 (⟨o, ho⟩ : Fin 16)) := by
  show V (Shape.reshapeEquiv _ _) = _
  rw [Shape.reshapeEquiv_self]
  apply congrArg V
  funext a; apply Fin.ext
  match a with
  | ⟨0, _⟩ => show o + 0 = o; omega

end Cert.Proof.TileVLaneI
-- ==== Proof.TileVWord.lean ====
import proofs.«218857_g62938450756068_cont_9to1c4b_813_41_alg».proof.Proof.TileVIssueLem
import proofs.«218857_g62938450756068_cont_9to1c4b_813_41_alg».proof.Proof.TileVLaneI

noncomputable section

namespace Cert.Proof.TileVWord

open Cert.KernelIdeal Cert.KernelIdeal.Gen Cert.Proof.KernelIdealBase Cert.Proof.TileVDefs Cert.Proof.TileVMem Cert.Proof.TileVInv Cert.Proof.TileVIssueLem

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable (d : Dev nD) (L : grid1.Coords)
variable (cF : Buf (Elt F) (l0 d L)) (hcF : ∀ x : S512.Idx, ((cF : S512.Idx → BitVec 32) x).toNat < 1000000)
variable (ev : Buf (Elt F) (lev d L)) (q : PosShare TreeShare)

/-- Entry `o` of the 16 index words loaded at offset `b` of the index scratch is the scratch's entry `b + o`. -/
theorem loaded_entry (b o : ℕ) (hoff : ∀ a, (![b] : Fin 1 → ℕ) a + S16.size a ≤ S512.size a) (ho : o < 16) (hbo : b + o < 512) :
    View.readAt (Elt F) (s0).view (Rect.unit (s := S512) ![b] S16.size hoff).toLoadRect cF (ix1 (⟨o, ho⟩ : Fin 16))
      = (cF : S512.Idx → BitVec 32) (ix1 (⟨b + o, hbo⟩ : Fin 512)) := by
  refine (View.read_apply (v := (s0).view) (Val := Elt F) cF ((Rect.unit (s := S512) ![b] S16.size hoff).toLoadRect.idx (ix1 (⟨o, ho⟩ : Fin 16)))).trans ?_
  refine (cast_eq _ _).trans (congrArg (cF : S512.Idx → BitVec 32) ?_)
  funext a; apply Fin.ext
  match a with
  | ⟨0, _⟩ => show b + 1 * o = b + o; omega

/-- The word a trip's lane reads: lane `o` of the 16 index words loaded at offset `base = 64j + 16g` of the index
    scratch is the word of element `16g + o` of chunk `j`. -/
theorem word_eq (j : Fin 8) (gv : ℕ) (off : Fin 1 → ℕ) (hoff : ∀ a, off a + S16.size a ≤ S512.size a)
    [c : ClosedOff off] (base : ℕ) (eform : c.form = ![base]) (hb : base = 64 * j.val + 16 * gv)
    (o : ℕ) (hs : S16.Slices ![o] S1) (hp : ∀ a, (![0] : Fin 1 → ℕ) a < S1.size a) (hc : S16.ShapeCasts S16)
    (t : Fin 64) (ht : t.val = 16 * gv + o) :
    extractAt ![0] (extractStridedSlice S1 ![o] (shapeCast S16 (View.readAt (Elt F) (s0).view (Rect.unit (s := S512) off S16.size hoff).toLoadRect cF) hc) hs) hp
      = wd d L cF j t := by
  have eoff : off = ![base] := c.eq.trans eform
  subst eoff
  have ho : o < 16 := by
    have h := hs.2 0
    have h' : o + 1 ≤ 16 := h
    omega
  refine (TileVLaneI.lane_entry _ o hc hs hp ho).trans ?_
  have hbo : base + o < 512 := by have := t.isLt; have := j.isLt; omega
  refine (loaded_entry d L cF base o hoff ho hbo).trans ?_
  unfold wd
  apply congrArg (cF : S512.Idx → BitVec 32)
  apply congrArg ix1
  apply Fin.ext
  show base + o = 64 * j.val + t.val
  omega

/-- A row of the scratch owned, respelt at the body's offsets. -/
theorem rowOwn_to (t : Fin 64) (off : Fin 2 → ℕ) (h : ∀ a, off a + S1x64.size a ≤ S64x64.size a) [c : ClosedOff off]
    (eform : c.form = ![t.val, 0]) :
    rowOwn d L t ⊢ (iprop(∃ f, (rowM off h).view.loc (thr d L) ↦[(rowM off h).view.set]{fullShare} f) : sProp 𝕄) := by
  have eoff : off = ![t.val, 0] := c.eq.trans eform
  unfold rowOwn
  iintro ⟨%f, H⟩
  iexists f
  iapply (Entails.of_eq (congrArg (fun S => (l1 d L ↦[S]{fullShare} f : sProp 𝕄)) ((set_vRow t).trans (set_rowM t off h eoff).symm)))
  iexact H

/-- What a token keeps while its row is lent, respelt from the body's index word. -/
theorem rest_to (j : Fin 8) (t : Fin 64) (v : BitVec 32) (hv : ∀ a, (![v.toNat, 0] : Fin 2 → ℕ) a + S1x64.size a ≤ S1000000x64.size a)
    (ew : v = wd d L cF j t) (n : ℕ) (hn : n = t.val) :
    ((evW).view.loc (thr d L) ↦[(evW).view.set \ (evRow v hv).view.set]{Transfers.shareTokN q n} ev : sProp 𝕄)
      ⊢ tokRest d L cF hcF ev q j t := by
  subst ew; subst hn
  exact .rfl

end Cert.Proof.TileVWord
end
-- ==== Proof.TileVIssue0.lean ====
/-
  Chunk 0's issue trip. Trip `g` of the chunk's issue loop loads the 16 centre words of elements `16g … 16g + 15`
  of the chunk and starts, for each, the copy of the table row it names into row `16g + l` of the gathered-rows
  scratch, all on the one gather semaphore: transfers `16g … 16g + 15` of the chunk's batch. Each word is below
  the table's extent (the index scratch holds the subcore's centre words); each copy's delivery is the batch's.
-/
import proofs.«218857_g62938450756068_cont_9to1c4b_813_41_alg».proof.Proof.TileVWord

set_option maxRecDepth 100000

noncomputable section

namespace Cert.Proof.TileVIssue0

open Cert.KernelIdeal Cert.KernelIdeal.Gen Cert.Proof.KernelIdealBase Cert.Proof.TileVDefs Cert.Proof.TileVMem Cert.Proof.TileVInv
open Cert.Proof.TileVIssueLem Cert.Proof.TileVWord

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (L : grid1.Coords)
variable (cF : Buf (Elt F) (l0 d L)) (hcF : ∀ x : S512.Idx, ((cF : S512.Idx → BitVec 32) x).toNat < 1000000)
variable (ev : Buf (Elt F) (lev d L)) (q : PosShare TreeShare)

set_option maxHeartbeats 0 in
theorem issue_step0 [∀ e, Nonempty (Elt F e)] (g : Fin k1_t1_loop.trips) (acc : Unit) :
    issueAt d L cF hcF ev q 0 g.val acc
      ⊢ wp frame (wpE (defs₀ (F := F)) 𝒱₀ (thr d L) none) Set.univ
          (k1_t1_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 g acc)
          (issueAt d L cF hcF ev q 0 (g.val + 1)) := by
  have hg : g.val < 4 := g.isLt
  have hb0 : 16 * g.val = 64 * (0 : Fin 8).val + 16 * g.val := by show 16 * g.val = 64 * 0 + 16 * g.val; omega
  unfold issueAt
  rw [show 16 * (g.val + 1) = 16 * g.val + 1 + 1 + 1 + 1 + 1 + 1 + 1 + 1 + 1 + 1 + 1 + 1 + 1 + 1 + 1 + 1 from by omega]
  rw [Ring.bigSep_rangeSet_head (Φ := rowOwn d L) (lo := 16 * g.val) (by omega) (by omega),
    Ring.bigSep_rangeSet_head (Φ := rowOwn d L) (lo := 16 * g.val + 1) (by omega) (by omega),
    Ring.bigSep_rangeSet_head (Φ := rowOwn d L) (lo := 16 * g.val + 1 + 1) (by omega) (by omega),
    Ring.bigSep_rangeSet_head (Φ := rowOwn d L) (lo := 16 * g.val + 1 + 1 + 1) (by omega) (by omega),
    Ring.bigSep_rangeSet_head (Φ := rowOwn d L) (lo := 16 * g.val + 1 + 1 + 1 + 1) (by omega) (by omega),
    Ring.bigSep_rangeSet_head (Φ := rowOwn d L) (lo := 16 * g.val + 1 + 1 + 1 + 1 + 1) (by omega) (by omega),
    Ring.bigSep_rangeSet_head (Φ := rowOwn d L) (lo := 16 * g.val + 1 + 1 + 1 + 1 + 1 + 1) (by omega) (by omega),
    Ring.bigSep_rangeSet_head (Φ := rowOwn d L) (lo := 16 * g.val + 1 + 1 + 1 + 1 + 1 + 1 + 1) (by omega) (by omega),
    Ring.bigSep_rangeSet_head (Φ := rowOwn d L) (lo := 16 * g.val + 1 + 1 + 1 + 1 + 1 + 1 + 1 + 1) (by omega) (by omega),
    Ring.bigSep_rangeSet_head (Φ := rowOwn d L) (lo := 16 * g.val + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1 + 1) (by omega) (by omega),
    Ring.bigSep_rangeSet_head (Φ := tok d L ev q) (lo := 16 * g.val) (by omega) (by omega),
    Ring.bigSep_rangeSet_head (Φ := tok d L ev q) (lo := 16 * g.val + 1) (by omega) (by omega),
    Ring.bigSep_rangeSet_head (Φ := tok d L ev q) (lo := 16 * g.val + 1 + 1) (by omega) (by omega),
    Ring.bigSep_rangeSet_head (Φ := tok d L ev q) (lo := 16 * g.val + 1 + 1 + 1) (by omega) (by omega),
    Ring.bigSep_rangeSet_head (Φ := tok d L ev q) (lo := 16 * g.val + 1 + 1 + 1 + 1) (by omega) (by omega),
    Ring.bigSep_rangeSet_head (Φ := tok d L ev q) (lo := 16 * g.val + 1 + 1 + 1 + 1 + 1) (by omega) (by omega),
    Ring.bigSep_rangeSet_head (Φ := tok d L ev q) (lo := 16 * g.val + 1 + 1 + 1 + 1 + 1 + 1) (by omega) (by omega),
    Ring.bigSep_rangeSet_head (Φ := tok d L ev q) (lo := 16 * g.val + 1 + 1 + 1 + 1 + 1 + 1 + 1) (by omega) (by omega),
    Ring.bigSep_rangeSet_head (Φ := tok d L ev q) (lo := 16 * g.val + 1 + 1 + 1 + 1 + 1 + 1 + 1 + 1) (by omega) (by omega),
    Ring.bigSep_rangeSet_head (Φ := tok d L ev q) (lo := 16 * g.val + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1 + 1) (by omega) (by omega)]
  rw [Ring.bigSep_rangeSet_split (Φ := tokRest d L cF hcF ev q 0) (a := 0) (b := 16 * g.val) (d := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_empty (Φ := tokRest d L cF hcF ev q 0) (lo := 16 * g.val + 1 + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (le_refl _)]
  iintro ⟨HB, Hc, ⟨HR0, HR1, HR2, HR3, HR4, HR5, HR6, HR7, HR8, HR9, HR10, HR11, HR12, HR13, HR14, HR15, HRs⟩, ⟨HT0, HT1, HT2, HT3, HT4, HT5, HT6, HT7, HT8, HT9, HT10, HT11, HT12, HT13, HT14, HT15, HTs⟩, Hrest⟩
  ihave HR0' := (rowOwn_to d L ⟨16 * g.val, _⟩ (k1_off6 g 0#32) (K1.Facts₀.k1_off6_inb g 0) rfl) $$ HR0
  icases HR0' with ⟨%f0, HR0⟩
  ihave HR1' := (rowOwn_to d L ⟨16 * g.val + 1, _⟩ (k1_off8 g 1#32) (K1.Facts₀.k1_off8_inb g 0) rfl) $$ HR1
  icases HR1' with ⟨%f1, HR1⟩
  ihave HR2' := (rowOwn_to d L ⟨16 * g.val + 1 + 1, _⟩ (k1_off10 g 2#32) (K1.Facts₀.k1_off10_inb g 0) rfl) $$ HR2
  icases HR2' with ⟨%f2, HR2⟩
  ihave HR3' := (rowOwn_to d L ⟨16 * g.val + 1 + 1 + 1, _⟩ (k1_off12 g 3#32) (K1.Facts₀.k1_off12_inb g 0) rfl) $$ HR3
  icases HR3' with ⟨%f3, HR3⟩
  ihave HR4' := (rowOwn_to d L ⟨16 * g.val + 1 + 1 + 1 + 1, _⟩ (k1_off14 g 4#32) (K1.Facts₀.k1_off14_inb g 0) rfl) $$ HR4
  icases HR4' with ⟨%f4, HR4⟩
  ihave HR5' := (rowOwn_to d L ⟨16 * g.val + 1 + 1 + 1 + 1 + 1, _⟩ (k1_off16 g 5#32) (K1.Facts₀.k1_off16_inb g 0) rfl) $$ HR5
  icases HR5' with ⟨%f5, HR5⟩
  ihave HR6' := (rowOwn_to d L ⟨16 * g.val + 1 + 1 + 1 + 1 + 1 + 1, _⟩ (k1_off18 g 6#32) (K1.Facts₀.k1_off18_inb g 0) rfl) $$ HR6
  icases HR6' with ⟨%f6, HR6⟩
  ihave HR7' := (rowOwn_to d L ⟨16 * g.val + 1 + 1 + 1 + 1 + 1 + 1 + 1, _⟩ (k1_off20 g 7#32) (K1.Facts₀.k1_off20_inb g 0) rfl) $$ HR7
  icases HR7' with ⟨%f7, HR7⟩
  ihave HR8' := (rowOwn_to d L ⟨16 * g.val + 1 + 1 + 1 + 1 + 1 + 1 + 1 + 1, _⟩ (k1_off22 g 8#32) (K1.Facts₀.k1_off22_inb g 0) rfl) $$ HR8
  icases HR8' with ⟨%f8, HR8⟩
  ihave HR9' := (rowOwn_to d L ⟨16 * g.val + 1 + 1 + 1 + 1 + 1 + 1 + 1 + 1 + 1, _⟩ (k1_off24 g 9#32) (K1.Facts₀.k1_off24_inb g 0) rfl) $$ HR9
  icases HR9' with ⟨%f9, HR9⟩
  ihave HR10' := (rowOwn_to d L ⟨16 * g.val + 1 + 1 + 1 + 1 + 1 + 1 + 1 + 1 + 1 + 1, _⟩ (k1_off26 g 10#32) (K1.Facts₀.k1_off26_inb g 0) rfl) $$ HR10
  icases HR10' with ⟨%f10, HR10⟩
  ihave HR11' := (rowOwn_to d L ⟨16 * g.val + 1 + 1 + 1 + 1 + 1 + 1 + 1 + 1 + 1 + 1 + 1, _⟩ (k1_off28 g 11#32) (K1.Facts₀.k1_off28_inb g 0) rfl) $$ HR11
  icases HR11' with ⟨%f11, HR11⟩
  ihave HR12' := (rowOwn_to d L ⟨16 * g.val + 1 + 1 + 1 + 1 + 1 + 1 + 1 + 1 + 1 + 1 + 1 + 1, _⟩ (k1_off30 g 12#32) (K1.Facts₀.k1_off30_inb g 0) rfl) $$ HR12
  icases HR12' with ⟨%f12, HR12⟩
  ihave HR13' := (rowOwn_to d L ⟨16 * g.val + 1 + 1 + 1 + 1 + 1 + 1 + 1 + 1 + 1 + 1 + 1 + 1 + 1, _⟩ (k1_off32 g 13#32) (K1.Facts₀.k1_off32_inb g 0) rfl) $$ HR13
  icases HR13' with ⟨%f13, HR13⟩
  ihave HR14' := (rowOwn_to d L ⟨16 * g.val + 1 + 1 + 1 + 1 + 1 + 1 + 1 + 1 + 1 + 1 + 1 + 1 + 1 + 1, _⟩ (k1_off34 g 14#32) (K1.Facts₀.k1_off34_inb g 0) rfl) $$ HR14
  icases HR14' with ⟨%f14, HR14⟩
  ihave HR15' := (rowOwn_to d L ⟨16 * g.val + 1 + 1 + 1 + 1 + 1 + 1 + 1 + 1 + 1 + 1 + 1 + 1 + 1 + 1 + 1, _⟩ (k1_off36 g) (K1.Facts₀.k1_off36_inb g) rfl) $$ HR15
  icases HR15' with ⟨%f15, HR15⟩
  sl_unfold [k1_t1_body]
  sl_exec (disch := first
    | omega
    | exact TileVRect.row_inb _ (hcF _)
    | exact deliver d L cF hcF ev q 0 _ _ _ rfl _ _ (word_eq d L cF 0 g.val _ _ (16 * g.val) rfl hb0 _ (by decide) (by decide) _ _ rfl) _ _ rfl _ rfl)
  sl_step
  isplitl [HB]; · iexact HB
  isplitl [Hc]; · iexact Hc
  isplitl [HRs]; · iexact HRs
  isplitl [HTs]; · iexact HTs
  isplitl [Hrest]; · iexact Hrest
  isplitl [HT0]
  · iapply (rest_to d L cF hcF ev q 0 ⟨16 * g.val, _⟩ _ _ (word_eq d L cF 0 g.val (k1_off3 g) (K1.Facts₀.k1_off3_inb g) (16 * g.val) rfl hb0 0 Shapes1.Facts₀.slices_S16_o0_S1 Shapes1.Facts₀.inpos_S1_p0 Shapes1.Facts₀.shapeCasts_S16_S16 _ rfl) _ rfl); iexact HT0
  isplitl [HT1]
  · iapply (rest_to d L cF hcF ev q 0 ⟨16 * g.val + 1, _⟩ _ _ (word_eq d L cF 0 g.val (k1_off3 g) (K1.Facts₀.k1_off3_inb g) (16 * g.val) rfl hb0 1 Shapes1.Facts₀.slices_S16_o1_S1 Shapes1.Facts₀.inpos_S1_p0 Shapes1.Facts₀.shapeCasts_S16_S16 _ rfl) _ rfl); iexact HT1
  isplitl [HT2]
  · iapply (rest_to d L cF hcF ev q 0 ⟨16 * g.val + 1 + 1, _⟩ _ _ (word_eq d L cF 0 g.val (k1_off3 g) (K1.Facts₀.k1_off3_inb g) (16 * g.val) rfl hb0 2 Shapes1.Facts₀.slices_S16_o2_S1 Shapes1.Facts₀.inpos_S1_p0 Shapes1.Facts₀.shapeCasts_S16_S16 _ rfl) _ rfl); iexact HT2
  isplitl [HT3]
  · iapply (rest_to d L cF hcF ev q 0 ⟨16 * g.val + 1 + 1 + 1, _⟩ _ _ (word_eq d L cF 0 g.val (k1_off3 g) (K1.Facts₀.k1_off3_inb g) (16 * g.val) rfl hb0 3 Shapes1.Facts₀.slices_S16_o3_S1 Shapes1.Facts₀.inpos_S1_p0 Shapes1.Facts₀.shapeCasts_S16_S16 _ rfl) _ rfl); iexact HT3
  isplitl [HT4]
  · iapply (rest_to d L cF hcF ev q 0 ⟨16 * g.val + 1 + 1 + 1 + 1, _⟩ _ _ (word_eq d L cF 0 g.val (k1_off3 g) (K1.Facts₀.k1_off3_inb g) (16 * g.val) rfl hb0 4 Shapes1.Facts₀.slices_S16_o4_S1 Shapes1.Facts₀.inpos_S1_p0 Shapes1.Facts₀.shapeCasts_S16_S16 _ rfl) _ rfl); iexact HT4
  isplitl [HT5]
  · iapply (rest_to d L cF hcF ev q 0 ⟨16 * g.val + 1 + 1 + 1 + 1 + 1, _⟩ _ _ (word_eq d L cF 0 g.val (k1_off3 g) (K1.Facts₀.k1_off3_inb g) (16 * g.val) rfl hb0 5 Shapes1.Facts₀.slices_S16_o5_S1 Shapes1.Facts₀.inpos_S1_p0 Shapes1.Facts₀.shapeCasts_S16_S16 _ rfl) _ rfl); iexact HT5
  isplitl [HT6]
  · iapply (rest_to d L cF hcF ev q 0 ⟨16 * g.val + 1 + 1 + 1 + 1 + 1 + 1, _⟩ _ _ (word_eq d L cF 0 g.val (k1_off3 g) (K1.Facts₀.k1_off3_inb g) (16 * g.val) rfl hb0 6 Shapes1.Facts₀.slices_S16_o6_S1 Shapes1.Facts₀.inpos_S1_p0 Shapes1.Facts₀.shapeCasts_S16_S16 _ rfl) _ rfl); iexact HT6
  isplitl [HT7]
  · iapply (rest_to d L cF hcF ev q 0 ⟨16 * g.val + 1 + 1 + 1 + 1 + 1 + 1 + 1, _⟩ _ _ (word_eq d L cF 0 g.val (k1_off3 g) (K1.Facts₀.k1_off3_inb g) (16 * g.val) rfl hb0 7 Shapes1.Facts₀.slices_S16_o7_S1 Shapes1.Facts₀.inpos_S1_p0 Shapes1.Facts₀.shapeCasts_S16_S16 _ rfl) _ rfl); iexact HT7
  isplitl [HT8]
  · iapply (rest_to d L cF hcF ev q 0 ⟨16 * g.val + 1 + 1 + 1 + 1 + 1 + 1 + 1 + 1, _⟩ _ _ (word_eq d L cF 0 g.val (k1_off3 g) (K1.Facts₀.k1_off3_inb g) (16 * g.val) rfl hb0 8 Shapes1.Facts₀.slices_S16_o8_S1 Shapes1.Facts₀.inpos_S1_p0 Shapes1.Facts₀.shapeCasts_S16_S16 _ rfl) _ rfl); iexact HT8
  isplitl [HT9]
  · iapply (rest_to d L cF hcF ev q 0 ⟨16 * g.val + 1 + 1 + 1 + 1 + 1 + 1 + 1 + 1 + 1, _⟩ _ _ (word_eq d L cF 0 g.val (k1_off3 g) (K1.Facts₀.k1_off3_inb g) (16 * g.val) rfl hb0 9 Shapes1.Facts₀.slices_S16_o9_S1 Shapes1.Facts₀.inpos_S1_p0 Shapes1.Facts₀.shapeCasts_S16_S16 _ rfl) _ rfl); iexact HT9
  isplitl [HT10]
  · iapply (rest_to d L cF hcF ev q 0 ⟨16 * g.val + 1 + 1 + 1 + 1 + 1 + 1 + 1 + 1 + 1 + 1, _⟩ _ _ (word_eq d L cF 0 g.val (k1_off3 g) (K1.Facts₀.k1_off3_inb g) (16 * g.val) rfl hb0 10 Shapes1.Facts₀.slices_S16_o10_S1 Shapes1.Facts₀.inpos_S1_p0 Shapes1.Facts₀.shapeCasts_S16_S16 _ rfl) _ rfl); iexact HT10
  isplitl [HT11]
  · iapply (rest_to d L cF hcF ev q 0 ⟨16 * g.val + 1 + 1 + 1 + 1 + 1 + 1 + 1 + 1 + 1 + 1 + 1, _⟩ _ _ (word_eq d L cF 0 g.val (k1_off3 g) (K1.Facts₀.k1_off3_inb g) (16 * g.val) rfl hb0 11 Shapes1.Facts₀.slices_S16_o11_S1 Shapes1.Facts₀.inpos_S1_p0 Shapes1.Facts₀.shapeCasts_S16_S16 _ rfl) _ rfl); iexact HT11
  isplitl [HT12]
  · iapply (rest_to d L cF hcF ev q 0 ⟨16 * g.val + 1 + 1 + 1 + 1 + 1 + 1 + 1 + 1 + 1 + 1 + 1 + 1, _⟩ _ _ (word_eq d L cF 0 g.val (k1_off3 g) (K1.Facts₀.k1_off3_inb g) (16 * g.val) rfl hb0 12 Shapes1.Facts₀.slices_S16_o12_S1 Shapes1.Facts₀.inpos_S1_p0 Shapes1.Facts₀.shapeCasts_S16_S16 _ rfl) _ rfl); iexact HT12
  isplitl [HT13]
  · iapply (rest_to d L cF hcF ev q 0 ⟨16 * g.val + 1 + 1 + 1 + 1 + 1 + 1 + 1 + 1 + 1 + 1 + 1 + 1 + 1, _⟩ _ _ (word_eq d L cF 0 g.val (k1_off3 g) (K1.Facts₀.k1_off3_inb g) (16 * g.val) rfl hb0 13 Shapes1.Facts₀.slices_S16_o13_S1 Shapes1.Facts₀.inpos_S1_p0 Shapes1.Facts₀.shapeCasts_S16_S16 _ rfl) _ rfl); iexact HT13
  isplitl [HT14]
  · iapply (rest_to d L cF hcF ev q 0 ⟨16 * g.val + 1 + 1 + 1 + 1 + 1 + 1 + 1 + 1 + 1 + 1 + 1 + 1 + 1 + 1, _⟩ _ _ (word_eq d L cF 0 g.val (k1_off3 g) (K1.Facts₀.k1_off3_inb g) (16 * g.val) rfl hb0 14 Shapes1.Facts₀.slices_S16_o14_S1 Shapes1.Facts₀.inpos_S1_p0 Shapes1.Facts₀.shapeCasts_S16_S16 _ rfl) _ rfl); iexact HT14
  isplitl [HT15]
  · iapply (rest_to d L cF hcF ev q 0 ⟨16 * g.val + 1 + 1 + 1 + 1 + 1 + 1 + 1 + 1 + 1 + 1 + 1 + 1 + 1 + 1 + 1, _⟩ _ _ (word_eq d L cF 0 g.val (k1_off3 g) (K1.Facts₀.k1_off3_inb g) (16 * g.val) rfl hb0 15 Shapes1.Facts₀.slices_S16_o15_S1 Shapes1.Facts₀.inpos_S1_p0 Shapes1.Facts₀.shapeCasts_S16_S16 _ rfl) _ rfl); iexact HT15
  iempintro

end Cert.Proof.TileVIssue0

end
-- ==== Proof.TileVIssue1.lean ====
/-
  Chunk 1's issue trip. Trip `g` of the chunk's issue loop loads the 16 centre words of elements `16g … 16g + 15`
  of the chunk and starts, for each, the copy of the table row it names into row `16g + l` of the gathered-rows
  scratch, all on the one gather semaphore: transfers `16g … 16g + 15` of the chunk's batch. Each word is below
  the table's extent (the index scratch holds the subcore's centre words); each copy's delivery is the batch's.
-/
import proofs.«218857_g62938450756068_cont_9to1c4b_813_41_alg».proof.Proof.TileVWord

set_option maxRecDepth 100000

noncomputable section

namespace Cert.Proof.TileVIssue1

open Cert.KernelIdeal Cert.KernelIdeal.Gen Cert.Proof.KernelIdealBase Cert.Proof.TileVDefs Cert.Proof.TileVMem Cert.Proof.TileVInv
open Cert.Proof.TileVIssueLem Cert.Proof.TileVWord

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (L : grid1.Coords)
variable (cF : Buf (Elt F) (l0 d L)) (hcF : ∀ x : S512.Idx, ((cF : S512.Idx → BitVec 32) x).toNat < 1000000)
variable (ev : Buf (Elt F) (lev d L)) (q : PosShare TreeShare)

set_option maxHeartbeats 0 in
theorem issue_step1 [∀ e, Nonempty (Elt F e)] (v2 c0 : BitVec 32) (g : Fin k1_t4_loop.trips) (acc : Unit) :
    issueAt d L cF hcF ev q 1 g.val acc
      ⊢ wp frame (wpE (defs₀ (F := F)) 𝒱₀ (thr d L) none) Set.univ
          (k1_t4_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 v2 c0 g acc)
          (issueAt d L cF hcF ev q 1 (g.val + 1)) := by
  have hg : g.val < 4 := g.isLt
  have hb1 : 16 * g.val + 64 = 64 * (1 : Fin 8).val + 16 * g.val := by show 16 * g.val + 64 = 64 * 1 + 16 * g.val; omega
  unfold issueAt
  rw [show 16 * (g.val + 1) = 16 * g.val + 1 + 1 + 1 + 1 + 1 + 1 + 1 + 1 + 1 + 1 + 1 + 1 + 1 + 1 + 1 + 1 from by omega]
  rw [Ring.bigSep_rangeSet_head (Φ := rowOwn d L) (lo := 16 * g.val) (by omega) (by omega),
    Ring.bigSep_rangeSet_head (Φ := rowOwn d L) (lo := 16 * g.val + 1) (by omega) (by omega),
    Ring.bigSep_rangeSet_head (Φ := rowOwn d L) (lo := 16 * g.val + 1 + 1) (by omega) (by omega),
    Ring.bigSep_rangeSet_head (Φ := rowOwn d L) (lo := 16 * g.val + 1 + 1 + 1) (by omega) (by omega),
    Ring.bigSep_rangeSet_head (Φ := rowOwn d L) (lo := 16 * g.val + 1 + 1 + 1 + 1) (by omega) (by omega),
    Ring.bigSep_rangeSet_head (Φ := rowOwn d L) (lo := 16 * g.val + 1 + 1 + 1 + 1 + 1) (by omega) (by omega),
    Ring.bigSep_rangeSet_head (Φ := rowOwn d L) (lo := 16 * g.val + 1 + 1 + 1 + 1 + 1 + 1) (by omega) (by omega),
    Ring.bigSep_rangeSet_head (Φ := rowOwn d L) (lo := 16 * g.val + 1 + 1 + 1 + 1 + 1 + 1 + 1) (by omega) (by omega),
    Ring.bigSep_rangeSet_head (Φ := rowOwn d L) (lo := 16 * g.val + 1 + 1 + 1 + 1 + 1 + 1 + 1 + 1) (by omega) (by omega),
    Ring.bigSep_rangeSet_head (Φ := rowOwn d L) (lo := 16 * g.val + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1 + 1) (by omega) (by omega),
    Ring.bigSep_rangeSet_head (Φ := tok d L ev q) (lo := 16 * g.val) (by omega) (by omega),
    Ring.bigSep_rangeSet_head (Φ := tok d L ev q) (lo := 16 * g.val + 1) (by omega) (by omega),
    Ring.bigSep_rangeSet_head (Φ := tok d L ev q) (lo := 16 * g.val + 1 + 1) (by omega) (by omega),
    Ring.bigSep_rangeSet_head (Φ := tok d L ev q) (lo := 16 * g.val + 1 + 1 + 1) (by omega) (by omega),
    Ring.bigSep_rangeSet_head (Φ := tok d L ev q) (lo := 16 * g.val + 1 + 1 + 1 + 1) (by omega) (by omega),
    Ring.bigSep_rangeSet_head (Φ := tok d L ev q) (lo := 16 * g.val + 1 + 1 + 1 + 1 + 1) (by omega) (by omega),
    Ring.bigSep_rangeSet_head (Φ := tok d L ev q) (lo := 16 * g.val + 1 + 1 + 1 + 1 + 1 + 1) (by omega) (by omega),
    Ring.bigSep_rangeSet_head (Φ := tok d L ev q) (lo := 16 * g.val + 1 + 1 + 1 + 1 + 1 + 1 + 1) (by omega) (by omega),
    Ring.bigSep_rangeSet_head (Φ := tok d L ev q) (lo := 16 * g.val + 1 + 1 + 1 + 1 + 1 + 1 + 1 + 1) (by omega) (by omega),
    Ring.bigSep_rangeSet_head (Φ := tok d L ev q) (lo := 16 * g.val + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1 + 1) (by omega) (by omega)]
  rw [Ring.bigSep_rangeSet_split (Φ := tokRest d L cF hcF ev q 1) (a := 0) (b := 16 * g.val) (d := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_empty (Φ := tokRest d L cF hcF ev q 1) (lo := 16 * g.val + 1 + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (le_refl _)]
  iintro ⟨HB, Hc, ⟨HR0, HR1, HR2, HR3, HR4, HR5, HR6, HR7, HR8, HR9, HR10, HR11, HR12, HR13, HR14, HR15, HRs⟩, ⟨HT0, HT1, HT2, HT3, HT4, HT5, HT6, HT7, HT8, HT9, HT10, HT11, HT12, HT13, HT14, HT15, HTs⟩, Hrest⟩
  ihave HR0' := (rowOwn_to d L ⟨16 * g.val, _⟩ (k1_off45 g 0#32) (K1.Facts₀.k1_off45_inb g 0) rfl) $$ HR0
  icases HR0' with ⟨%f0, HR0⟩
  ihave HR1' := (rowOwn_to d L ⟨16 * g.val + 1, _⟩ (k1_off47 g 1#32) (K1.Facts₀.k1_off47_inb g 0) rfl) $$ HR1
  icases HR1' with ⟨%f1, HR1⟩
  ihave HR2' := (rowOwn_to d L ⟨16 * g.val + 1 + 1, _⟩ (k1_off49 g 2#32) (K1.Facts₀.k1_off49_inb g 0) rfl) $$ HR2
  icases HR2' with ⟨%f2, HR2⟩
  ihave HR3' := (rowOwn_to d L ⟨16 * g.val + 1 + 1 + 1, _⟩ (k1_off51 g 3#32) (K1.Facts₀.k1_off51_inb g 0) rfl) $$ HR3
  icases HR3' with ⟨%f3, HR3⟩
  ihave HR4' := (rowOwn_to d L ⟨16 * g.val + 1 + 1 + 1 + 1, _⟩ (k1_off53 g 4#32) (K1.Facts₀.k1_off53_inb g 0) rfl) $$ HR4
  icases HR4' with ⟨%f4, HR4⟩
  ihave HR5' := (rowOwn_to d L ⟨16 * g.val + 1 + 1 + 1 + 1 + 1, _⟩ (k1_off55 g 5#32) (K1.Facts₀.k1_off55_inb g 0) rfl) $$ HR5
  icases HR5' with ⟨%f5, HR5⟩
  ihave HR6' := (rowOwn_to d L ⟨16 * g.val + 1 + 1 + 1 + 1 + 1 + 1, _⟩ (k1_off57 g 6#32) (K1.Facts₀.k1_off57_inb g 0) rfl) $$ HR6
  icases HR6' with ⟨%f6, HR6⟩
  ihave HR7' := (rowOwn_to d L ⟨16 * g.val + 1 + 1 + 1 + 1 + 1 + 1 + 1, _⟩ (k1_off59 g 7#32) (K1.Facts₀.k1_off59_inb g 0) rfl) $$ HR7
  icases HR7' with ⟨%f7, HR7⟩
  ihave HR8' := (rowOwn_to d L ⟨16 * g.val + 1 + 1 + 1 + 1 + 1 + 1 + 1 + 1, _⟩ (k1_off61 g 8#32) (K1.Facts₀.k1_off61_inb g 0) rfl) $$ HR8
  icases HR8' with ⟨%f8, HR8⟩
  ihave HR9' := (rowOwn_to d L ⟨16 * g.val + 1 + 1 + 1 + 1 + 1 + 1 + 1 + 1 + 1, _⟩ (k1_off63 g 9#32) (K1.Facts₀.k1_off63_inb g 0) rfl) $$ HR9
  icases HR9' with ⟨%f9, HR9⟩
  ihave HR10' := (rowOwn_to d L ⟨16 * g.val + 1 + 1 + 1 + 1 + 1 + 1 + 1 + 1 + 1 + 1, _⟩ (k1_off65 g 10#32) (K1.Facts₀.k1_off65_inb g 0) rfl) $$ HR10
  icases HR10' with ⟨%f10, HR10⟩
  ihave HR11' := (rowOwn_to d L ⟨16 * g.val + 1 + 1 + 1 + 1 + 1 + 1 + 1 + 1 + 1 + 1 + 1, _⟩ (k1_off67 g 11#32) (K1.Facts₀.k1_off67_inb g 0) rfl) $$ HR11
  icases HR11' with ⟨%f11, HR11⟩
  ihave HR12' := (rowOwn_to d L ⟨16 * g.val + 1 + 1 + 1 + 1 + 1 + 1 + 1 + 1 + 1 + 1 + 1 + 1, _⟩ (k1_off69 g 12#32) (K1.Facts₀.k1_off69_inb g 0) rfl) $$ HR12
  icases HR12' with ⟨%f12, HR12⟩
  ihave HR13' := (rowOwn_to d L ⟨16 * g.val + 1 + 1 + 1 + 1 + 1 + 1 + 1 + 1 + 1 + 1 + 1 + 1 + 1, _⟩ (k1_off71 g 13#32) (K1.Facts₀.k1_off71_inb g 0) rfl) $$ HR13
  icases HR13' with ⟨%f13, HR13⟩
  ihave HR14' := (rowOwn_to d L ⟨16 * g.val + 1 + 1 + 1 + 1 + 1 + 1 + 1 + 1 + 1 + 1 + 1 + 1 + 1 + 1, _⟩ (k1_off73 g 14#32) (K1.Facts₀.k1_off73_inb g 0) rfl) $$ HR14
  icases HR14' with ⟨%f14, HR14⟩
  ihave HR15' := (rowOwn_to d L ⟨16 * g.val + 1 + 1 + 1 + 1 + 1 + 1 + 1 + 1 + 1 + 1 + 1 + 1 + 1 + 1 + 1, _⟩ (k1_off75 g) (K1.Facts₀.k1_off75_inb g) rfl) $$ HR15
  icases HR15' with ⟨%f15, HR15⟩
  sl_unfold [k1_t4_body]
  sl_exec (disch := first
    | omega
    | exact TileVRect.row_inb _ (hcF _)
    | exact deliver d L cF hcF ev q 1 _ _ _ rfl _ _ (word_eq d L cF 1 g.val _ _ (16 * g.val + 64) rfl hb1 _ (by decide) (by decide) _ _ rfl) _ _ rfl _ rfl)
  sl_step
  isplitl [HB]; · iexact HB
  isplitl [Hc]; · iexact Hc
  isplitl [HRs]; · iexact HRs
  isplitl [HTs]; · iexact HTs
  isplitl [Hrest]; · iexact Hrest
  isplitl [HT0]
  · iapply (rest_to d L cF hcF ev q 1 ⟨16 * g.val, _⟩ _ _ (word_eq d L cF 1 g.val (k1_off42 g) (K1.Facts₀.k1_off42_inb g) (16 * g.val + 64) rfl hb1 0 Shapes1.Facts₀.slices_S16_o0_S1 Shapes1.Facts₀.inpos_S1_p0 Shapes1.Facts₀.shapeCasts_S16_S16 _ rfl) _ rfl); iexact HT0
  isplitl [HT1]
  · iapply (rest_to d L cF hcF ev q 1 ⟨16 * g.val + 1, _⟩ _ _ (word_eq d L cF 1 g.val (k1_off42 g) (K1.Facts₀.k1_off42_inb g) (16 * g.val + 64) rfl hb1 1 Shapes1.Facts₀.slices_S16_o1_S1 Shapes1.Facts₀.inpos_S1_p0 Shapes1.Facts₀.shapeCasts_S16_S16 _ rfl) _ rfl); iexact HT1
  isplitl [HT2]
  · iapply (rest_to d L cF hcF ev q 1 ⟨16 * g.val + 1 + 1, _⟩ _ _ (word_eq d L cF 1 g.val (k1_off42 g) (K1.Facts₀.k1_off42_inb g) (16 * g.val + 64) rfl hb1 2 Shapes1.Facts₀.slices_S16_o2_S1 Shapes1.Facts₀.inpos_S1_p0 Shapes1.Facts₀.shapeCasts_S16_S16 _ rfl) _ rfl); iexact HT2
  isplitl [HT3]
  · iapply (rest_to d L cF hcF ev q 1 ⟨16 * g.val + 1 + 1 + 1, _⟩ _ _ (word_eq d L cF 1 g.val (k1_off42 g) (K1.Facts₀.k1_off42_inb g) (16 * g.val + 64) rfl hb1 3 Shapes1.Facts₀.slices_S16_o3_S1 Shapes1.Facts₀.inpos_S1_p0 Shapes1.Facts₀.shapeCasts_S16_S16 _ rfl) _ rfl); iexact HT3
  isplitl [HT4]
  · iapply (rest_to d L cF hcF ev q 1 ⟨16 * g.val + 1 + 1 + 1 + 1, _⟩ _ _ (word_eq d L cF 1 g.val (k1_off42 g) (K1.Facts₀.k1_off42_inb g) (16 * g.val + 64) rfl hb1 4 Shapes1.Facts₀.slices_S16_o4_S1 Shapes1.Facts₀.inpos_S1_p0 Shapes1.Facts₀.shapeCasts_S16_S16 _ rfl) _ rfl); iexact HT4
  isplitl [HT5]
  · iapply (rest_to d L cF hcF ev q 1 ⟨16 * g.val + 1 + 1 + 1 + 1 + 1, _⟩ _ _ (word_eq d L cF 1 g.val (k1_off42 g) (K1.Facts₀.k1_off42_inb g) (16 * g.val + 64) rfl hb1 5 Shapes1.Facts₀.slices_S16_o5_S1 Shapes1.Facts₀.inpos_S1_p0 Shapes1.Facts₀.shapeCasts_S16_S16 _ rfl) _ rfl); iexact HT5
  isplitl [HT6]
  · iapply (rest_to d L cF hcF ev q 1 ⟨16 * g.val + 1 + 1 + 1 + 1 + 1 + 1, _⟩ _ _ (word_eq d L cF 1 g.val (k1_off42 g) (K1.Facts₀.k1_off42_inb g) (16 * g.val + 64) rfl hb1 6 Shapes1.Facts₀.slices_S16_o6_S1 Shapes1.Facts₀.inpos_S1_p0 Shapes1.Facts₀.shapeCasts_S16_S16 _ rfl) _ rfl); iexact HT6
  isplitl [HT7]
  · iapply (rest_to d L cF hcF ev q 1 ⟨16 * g.val + 1 + 1 + 1 + 1 + 1 + 1 + 1, _⟩ _ _ (word_eq d L cF 1 g.val (k1_off42 g) (K1.Facts₀.k1_off42_inb g) (16 * g.val + 64) rfl hb1 7 Shapes1.Facts₀.slices_S16_o7_S1 Shapes1.Facts₀.inpos_S1_p0 Shapes1.Facts₀.shapeCasts_S16_S16 _ rfl) _ rfl); iexact HT7
  isplitl [HT8]
  · iapply (rest_to d L cF hcF ev q 1 ⟨16 * g.val + 1 + 1 + 1 + 1 + 1 + 1 + 1 + 1, _⟩ _ _ (word_eq d L cF 1 g.val (k1_off42 g) (K1.Facts₀.k1_off42_inb g) (16 * g.val + 64) rfl hb1 8 Shapes1.Facts₀.slices_S16_o8_S1 Shapes1.Facts₀.inpos_S1_p0 Shapes1.Facts₀.shapeCasts_S16_S16 _ rfl) _ rfl); iexact HT8
  isplitl [HT9]
  · iapply (rest_to d L cF hcF ev q 1 ⟨16 * g.val + 1 + 1 + 1 + 1 + 1 + 1 + 1 + 1 + 1, _⟩ _ _ (word_eq d L cF 1 g.val (k1_off42 g) (K1.Facts₀.k1_off42_inb g) (16 * g.val + 64) rfl hb1 9 Shapes1.Facts₀.slices_S16_o9_S1 Shapes1.Facts₀.inpos_S1_p0 Shapes1.Facts₀.shapeCasts_S16_S16 _ rfl) _ rfl); iexact HT9
  isplitl [HT10]
  · iapply (rest_to d L cF hcF ev q 1 ⟨16 * g.val + 1 + 1 + 1 + 1 + 1 + 1 + 1 + 1 + 1 + 1, _⟩ _ _ (word_eq d L cF 1 g.val (k1_off42 g) (K1.Facts₀.k1_off42_inb g) (16 * g.val + 64) rfl hb1 10 Shapes1.Facts₀.slices_S16_o10_S1 Shapes1.Facts₀.inpos_S1_p0 Shapes1.Facts₀.shapeCasts_S16_S16 _ rfl) _ rfl); iexact HT10
  isplitl [HT11]
  · iapply (rest_to d L cF hcF ev q 1 ⟨16 * g.val + 1 + 1 + 1 + 1 + 1 + 1 + 1 + 1 + 1 + 1 + 1, _⟩ _ _ (word_eq d L cF 1 g.val (k1_off42 g) (K1.Facts₀.k1_off42_inb g) (16 * g.val + 64) rfl hb1 11 Shapes1.Facts₀.slices_S16_o11_S1 Shapes1.Facts₀.inpos_S1_p0 Shapes1.Facts₀.shapeCasts_S16_S16 _ rfl) _ rfl); iexact HT11
  isplitl [HT12]
  · iapply (rest_to d L cF hcF ev q 1 ⟨16 * g.val + 1 + 1 + 1 + 1 + 1 + 1 + 1 + 1 + 1 + 1 + 1 + 1, _⟩ _ _ (word_eq d L cF 1 g.val (k1_off42 g) (K1.Facts₀.k1_off42_inb g) (16 * g.val + 64) rfl hb1 12 Shapes1.Facts₀.slices_S16_o12_S1 Shapes1.Facts₀.inpos_S1_p0 Shapes1.Facts₀.shapeCasts_S16_S16 _ rfl) _ rfl); iexact HT12
  isplitl [HT13]
  · iapply (rest_to d L cF hcF ev q 1 ⟨16 * g.val + 1 + 1 + 1 + 1 + 1 + 1 + 1 + 1 + 1 + 1 + 1 + 1 + 1, _⟩ _ _ (word_eq d L cF 1 g.val (k1_off42 g) (K1.Facts₀.k1_off42_inb g) (16 * g.val + 64) rfl hb1 13 Shapes1.Facts₀.slices_S16_o13_S1 Shapes1.Facts₀.inpos_S1_p0 Shapes1.Facts₀.shapeCasts_S16_S16 _ rfl) _ rfl); iexact HT13
  isplitl [HT14]
  · iapply (rest_to d L cF hcF ev q 1 ⟨16 * g.val + 1 + 1 + 1 + 1 + 1 + 1 + 1 + 1 + 1 + 1 + 1 + 1 + 1 + 1, _⟩ _ _ (word_eq d L cF 1 g.val (k1_off42 g) (K1.Facts₀.k1_off42_inb g) (16 * g.val + 64) rfl hb1 14 Shapes1.Facts₀.slices_S16_o14_S1 Shapes1.Facts₀.inpos_S1_p0 Shapes1.Facts₀.shapeCasts_S16_S16 _ rfl) _ rfl); iexact HT14
  isplitl [HT15]
  · iapply (rest_to d L cF hcF ev q 1 ⟨16 * g.val + 1 + 1 + 1 + 1 + 1 + 1 + 1 + 1 + 1 + 1 + 1 + 1 + 1 + 1 + 1, _⟩ _ _ (word_eq d L cF 1 g.val (k1_off42 g) (K1.Facts₀.k1_off42_inb g) (16 * g.val + 64) rfl hb1 15 Shapes1.Facts₀.slices_S16_o15_S1 Shapes1.Facts₀.inpos_S1_p0 Shapes1.Facts₀.shapeCasts_S16_S16 _ rfl) _ rfl); iexact HT15
  iempintro

end Cert.Proof.TileVIssue1

end
-- ==== Proof.TileVIssue2.lean ====
/-
  Chunk 2's issue trip. Trip `g` of the chunk's issue loop loads the 16 centre words of elements `16g … 16g + 15`
  of the chunk and starts, for each, the copy of the table row it names into row `16g + l` of the gathered-rows
  scratch, all on the one gather semaphore: transfers `16g … 16g + 15` of the chunk's batch. Each word is below
  the table's extent (the index scratch holds the subcore's centre words); each copy's delivery is the batch's.
-/
import proofs.«218857_g62938450756068_cont_9to1c4b_813_41_alg».proof.Proof.TileVWord

set_option maxRecDepth 100000

noncomputable section

namespace Cert.Proof.TileVIssue2

open Cert.KernelIdeal Cert.KernelIdeal.Gen Cert.Proof.KernelIdealBase Cert.Proof.TileVDefs Cert.Proof.TileVMem Cert.Proof.TileVInv
open Cert.Proof.TileVIssueLem Cert.Proof.TileVWord

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (L : grid1.Coords)
variable (cF : Buf (Elt F) (l0 d L)) (hcF : ∀ x : S512.Idx, ((cF : S512.Idx → BitVec 32) x).toNat < 1000000)
variable (ev : Buf (Elt F) (lev d L)) (q : PosShare TreeShare)

set_option maxHeartbeats 0 in
theorem issue_step2 [∀ e, Nonempty (Elt F e)] (v2 c0 : BitVec 32) (g : Fin k1_t7_loop.trips) (acc : Unit) :
    issueAt d L cF hcF ev q 2 g.val acc
      ⊢ wp frame (wpE (defs₀ (F := F)) 𝒱₀ (thr d L) none) Set.univ
          (k1_t7_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 v2 c0 g acc)
          (issueAt d L cF hcF ev q 2 (g.val + 1)) := by
  have hg : g.val < 4 := g.isLt
  have hb2 : 16 * g.val + 128 = 64 * (2 : Fin 8).val + 16 * g.val := by show 16 * g.val + 128 = 64 * 2 + 16 * g.val; omega
  unfold issueAt
  rw [show 16 * (g.val + 1) = 16 * g.val + 1 + 1 + 1 + 1 + 1 + 1 + 1 + 1 + 1 + 1 + 1 + 1 + 1 + 1 + 1 + 1 from by omega]
  rw [Ring.bigSep_rangeSet_head (Φ := rowOwn d L) (lo := 16 * g.val) (by omega) (by omega),
    Ring.bigSep_rangeSet_head (Φ := rowOwn d L) (lo := 16 * g.val + 1) (by omega) (by omega),
    Ring.bigSep_rangeSet_head (Φ := rowOwn d L) (lo := 16 * g.val + 1 + 1) (by omega) (by omega),
    Ring.bigSep_rangeSet_head (Φ := rowOwn d L) (lo := 16 * g.val + 1 + 1 + 1) (by omega) (by omega),
    Ring.bigSep_rangeSet_head (Φ := rowOwn d L) (lo := 16 * g.val + 1 + 1 + 1 + 1) (by omega) (by omega),
    Ring.bigSep_rangeSet_head (Φ := rowOwn d L) (lo := 16 * g.val + 1 + 1 + 1 + 1 + 1) (by omega) (by omega),
    Ring.bigSep_rangeSet_head (Φ := rowOwn d L) (lo := 16 * g.val + 1 + 1 + 1 + 1 + 1 + 1) (by omega) (by omega),
    Ring.bigSep_rangeSet_head (Φ := rowOwn d L) (lo := 16 * g.val + 1 + 1 + 1 + 1 + 1 + 1 + 1) (by omega) (by omega),
    Ring.bigSep_rangeSet_head (Φ := rowOwn d L) (lo := 16 * g.val + 1 + 1 + 1 + 1 + 1 + 1 + 1 + 1) (by omega) (by omega),
    Ring.bigSep_rangeSet_head (Φ := rowOwn d L) (lo := 16 * g.val + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1 + 1) (by omega) (by omega),
    Ring.bigSep_rangeSet_head (Φ := tok d L ev q) (lo := 16 * g.val) (by omega) (by omega),
    Ring.bigSep_rangeSet_head (Φ := tok d L ev q) (lo := 16 * g.val + 1) (by omega) (by omega),
    Ring.bigSep_rangeSet_head (Φ := tok d L ev q) (lo := 16 * g.val + 1 + 1) (by omega) (by omega),
    Ring.bigSep_rangeSet_head (Φ := tok d L ev q) (lo := 16 * g.val + 1 + 1 + 1) (by omega) (by omega),
    Ring.bigSep_rangeSet_head (Φ := tok d L ev q) (lo := 16 * g.val + 1 + 1 + 1 + 1) (by omega) (by omega),
    Ring.bigSep_rangeSet_head (Φ := tok d L ev q) (lo := 16 * g.val + 1 + 1 + 1 + 1 + 1) (by omega) (by omega),
    Ring.bigSep_rangeSet_head (Φ := tok d L ev q) (lo := 16 * g.val + 1 + 1 + 1 + 1 + 1 + 1) (by omega) (by omega),
    Ring.bigSep_rangeSet_head (Φ := tok d L ev q) (lo := 16 * g.val + 1 + 1 + 1 + 1 + 1 + 1 + 1) (by omega) (by omega),
    Ring.bigSep_rangeSet_head (Φ := tok d L ev q) (lo := 16 * g.val + 1 + 1 + 1 + 1 + 1 + 1 + 1 + 1) (by omega) (by omega),
    Ring.bigSep_rangeSet_head (Φ := tok d L ev q) (lo := 16 * g.val + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1 + 1) (by omega) (by omega)]
  rw [Ring.bigSep_rangeSet_split (Φ := tokRest d L cF hcF ev q 2) (a := 0) (b := 16 * g.val) (d := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_empty (Φ := tokRest d L cF hcF ev q 2) (lo := 16 * g.val + 1 + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (le_refl _)]
  iintro ⟨HB, Hc, ⟨HR0, HR1, HR2, HR3, HR4, HR5, HR6, HR7, HR8, HR9, HR10, HR11, HR12, HR13, HR14, HR15, HRs⟩, ⟨HT0, HT1, HT2, HT3, HT4, HT5, HT6, HT7, HT8, HT9, HT10, HT11, HT12, HT13, HT14, HT15, HTs⟩, Hrest⟩
  ihave HR0' := (rowOwn_to d L ⟨16 * g.val, _⟩ (k1_off84 g 0#32) (K1.Facts₀.k1_off84_inb g 0) rfl) $$ HR0
  icases HR0' with ⟨%f0, HR0⟩
  ihave HR1' := (rowOwn_to d L ⟨16 * g.val + 1, _⟩ (k1_off86 g 1#32) (K1.Facts₀.k1_off86_inb g 0) rfl) $$ HR1
  icases HR1' with ⟨%f1, HR1⟩
  ihave HR2' := (rowOwn_to d L ⟨16 * g.val + 1 + 1, _⟩ (k1_off88 g 2#32) (K1.Facts₀.k1_off88_inb g 0) rfl) $$ HR2
  icases HR2' with ⟨%f2, HR2⟩
  ihave HR3' := (rowOwn_to d L ⟨16 * g.val + 1 + 1 + 1, _⟩ (k1_off90 g 3#32) (K1.Facts₀.k1_off90_inb g 0) rfl) $$ HR3
  icases HR3' with ⟨%f3, HR3⟩
  ihave HR4' := (rowOwn_to d L ⟨16 * g.val + 1 + 1 + 1 + 1, _⟩ (k1_off92 g 4#32) (K1.Facts₀.k1_off92_inb g 0) rfl) $$ HR4
  icases HR4' with ⟨%f4, HR4⟩
  ihave HR5' := (rowOwn_to d L ⟨16 * g.val + 1 + 1 + 1 + 1 + 1, _⟩ (k1_off94 g 5#32) (K1.Facts₀.k1_off94_inb g 0) rfl) $$ HR5
  icases HR5' with ⟨%f5, HR5⟩
  ihave HR6' := (rowOwn_to d L ⟨16 * g.val + 1 + 1 + 1 + 1 + 1 + 1, _⟩ (k1_off96 g 6#32) (K1.Facts₀.k1_off96_inb g 0) rfl) $$ HR6
  icases HR6' with ⟨%f6, HR6⟩
  ihave HR7' := (rowOwn_to d L ⟨16 * g.val + 1 + 1 + 1 + 1 + 1 + 1 + 1, _⟩ (k1_off98 g 7#32) (K1.Facts₀.k1_off98_inb g 0) rfl) $$ HR7
  icases HR7' with ⟨%f7, HR7⟩
  ihave HR8' := (rowOwn_to d L ⟨16 * g.val + 1 + 1 + 1 + 1 + 1 + 1 + 1 + 1, _⟩ (k1_off100 g 8#32) (K1.Facts₀.k1_off100_inb g 0) rfl) $$ HR8
  icases HR8' with ⟨%f8, HR8⟩
  ihave HR9' := (rowOwn_to d L ⟨16 * g.val + 1 + 1 + 1 + 1 + 1 + 1 + 1 + 1 + 1, _⟩ (k1_off102 g 9#32) (K1.Facts₀.k1_off102_inb g 0) rfl) $$ HR9
  icases HR9' with ⟨%f9, HR9⟩
  ihave HR10' := (rowOwn_to d L ⟨16 * g.val + 1 + 1 + 1 + 1 + 1 + 1 + 1 + 1 + 1 + 1, _⟩ (k1_off104 g 10#32) (K1.Facts₀.k1_off104_inb g 0) rfl) $$ HR10
  icases HR10' with ⟨%f10, HR10⟩
  ihave HR11' := (rowOwn_to d L ⟨16 * g.val + 1 + 1 + 1 + 1 + 1 + 1 + 1 + 1 + 1 + 1 + 1, _⟩ (k1_off106 g 11#32) (K1.Facts₀.k1_off106_inb g 0) rfl) $$ HR11
  icases HR11' with ⟨%f11, HR11⟩
  ihave HR12' := (rowOwn_to d L ⟨16 * g.val + 1 + 1 + 1 + 1 + 1 + 1 + 1 + 1 + 1 + 1 + 1 + 1, _⟩ (k1_off108 g 12#32) (K1.Facts₀.k1_off108_inb g 0) rfl) $$ HR12
  icases HR12' with ⟨%f12, HR12⟩
  ihave HR13' := (rowOwn_to d L ⟨16 * g.val + 1 + 1 + 1 + 1 + 1 + 1 + 1 + 1 + 1 + 1 + 1 + 1 + 1, _⟩ (k1_off110 g 13#32) (K1.Facts₀.k1_off110_inb g 0) rfl) $$ HR13
  icases HR13' with ⟨%f13, HR13⟩
  ihave HR14' := (rowOwn_to d L ⟨16 * g.val + 1 + 1 + 1 + 1 + 1 + 1 + 1 + 1 + 1 + 1 + 1 + 1 + 1 + 1, _⟩ (k1_off112 g 14#32) (K1.Facts₀.k1_off112_inb g 0) rfl) $$ HR14
  icases HR14' with ⟨%f14, HR14⟩
  ihave HR15' := (rowOwn_to d L ⟨16 * g.val + 1 + 1 + 1 + 1 + 1 + 1 + 1 + 1 + 1 + 1 + 1 + 1 + 1 + 1 + 1, _⟩ (k1_off114 g) (K1.Facts₀.k1_off114_inb g) rfl) $$ HR15
  icases HR15' with ⟨%f15, HR15⟩
  sl_unfold [k1_t7_body]
  sl_exec (disch := first
    | omega
    | exact TileVRect.row_inb _ (hcF _)
    | exact deliver d L cF hcF ev q 2 _ _ _ rfl _ _ (word_eq d L cF 2 g.val _ _ (16 * g.val + 128) rfl hb2 _ (by decide) (by decide) _ _ rfl) _ _ rfl _ rfl)
  sl_step
  isplitl [HB]; · iexact HB
  isplitl [Hc]; · iexact Hc
  isplitl [HRs]; · iexact HRs
  isplitl [HTs]; · iexact HTs
  isplitl [Hrest]; · iexact Hrest
  isplitl [HT0]
  · iapply (rest_to d L cF hcF ev q 2 ⟨16 * g.val, _⟩ _ _ (word_eq d L cF 2 g.val (k1_off81 g) (K1.Facts₀.k1_off81_inb g) (16 * g.val + 128) rfl hb2 0 Shapes1.Facts₀.slices_S16_o0_S1 Shapes1.Facts₀.inpos_S1_p0 Shapes1.Facts₀.shapeCasts_S16_S16 _ rfl) _ rfl); iexact HT0
  isplitl [HT1]
  · iapply (rest_to d L cF hcF ev q 2 ⟨16 * g.val + 1, _⟩ _ _ (word_eq d L cF 2 g.val (k1_off81 g) (K1.Facts₀.k1_off81_inb g) (16 * g.val + 128) rfl hb2 1 Shapes1.Facts₀.slices_S16_o1_S1 Shapes1.Facts₀.inpos_S1_p0 Shapes1.Facts₀.shapeCasts_S16_S16 _ rfl) _ rfl); iexact HT1
  isplitl [HT2]
  · iapply (rest_to d L cF hcF ev q 2 ⟨16 * g.val + 1 + 1, _⟩ _ _ (word_eq d L cF 2 g.val (k1_off81 g) (K1.Facts₀.k1_off81_inb g) (16 * g.val + 128) rfl hb2 2 Shapes1.Facts₀.slices_S16_o2_S1 Shapes1.Facts₀.inpos_S1_p0 Shapes1.Facts₀.shapeCasts_S16_S16 _ rfl) _ rfl); iexact HT2
  isplitl [HT3]
  · iapply (rest_to d L cF hcF ev q 2 ⟨16 * g.val + 1 + 1 + 1, _⟩ _ _ (word_eq d L cF 2 g.val (k1_off81 g) (K1.Facts₀.k1_off81_inb g) (16 * g.val + 128) rfl hb2 3 Shapes1.Facts₀.slices_S16_o3_S1 Shapes1.Facts₀.inpos_S1_p0 Shapes1.Facts₀.shapeCasts_S16_S16 _ rfl) _ rfl); iexact HT3
  isplitl [HT4]
  · iapply (rest_to d L cF hcF ev q 2 ⟨16 * g.val + 1 + 1 + 1 + 1, _⟩ _ _ (word_eq d L cF 2 g.val (k1_off81 g) (K1.Facts₀.k1_off81_inb g) (16 * g.val + 128) rfl hb2 4 Shapes1.Facts₀.slices_S16_o4_S1 Shapes1.Facts₀.inpos_S1_p0 Shapes1.Facts₀.shapeCasts_S16_S16 _ rfl) _ rfl); iexact HT4
  isplitl [HT5]
  · iapply (rest_to d L cF hcF ev q 2 ⟨16 * g.val + 1 + 1 + 1 + 1 + 1, _⟩ _ _ (word_eq d L cF 2 g.val (k1_off81 g) (K1.Facts₀.k1_off81_inb g) (16 * g.val + 128) rfl hb2 5 Shapes1.Facts₀.slices_S16_o5_S1 Shapes1.Facts₀.inpos_S1_p0 Shapes1.Facts₀.shapeCasts_S16_S16 _ rfl) _ rfl); iexact HT5
  isplitl [HT6]
  · iapply (rest_to d L cF hcF ev q 2 ⟨16 * g.val + 1 + 1 + 1 + 1 + 1 + 1, _⟩ _ _ (word_eq d L cF 2 g.val (k1_off81 g) (K1.Facts₀.k1_off81_inb g) (16 * g.val + 128) rfl hb2 6 Shapes1.Facts₀.slices_S16_o6_S1 Shapes1.Facts₀.inpos_S1_p0 Shapes1.Facts₀.shapeCasts_S16_S16 _ rfl) _ rfl); iexact HT6
  isplitl [HT7]
  · iapply (rest_to d L cF hcF ev q 2 ⟨16 * g.val + 1 + 1 + 1 + 1 + 1 + 1 + 1, _⟩ _ _ (word_eq d L cF 2 g.val (k1_off81 g) (K1.Facts₀.k1_off81_inb g) (16 * g.val + 128) rfl hb2 7 Shapes1.Facts₀.slices_S16_o7_S1 Shapes1.Facts₀.inpos_S1_p0 Shapes1.Facts₀.shapeCasts_S16_S16 _ rfl) _ rfl); iexact HT7
  isplitl [HT8]
  · iapply (rest_to d L cF hcF ev q 2 ⟨16 * g.val + 1 + 1 + 1 + 1 + 1 + 1 + 1 + 1, _⟩ _ _ (word_eq d L cF 2 g.val (k1_off81 g) (K1.Facts₀.k1_off81_inb g) (16 * g.val + 128) rfl hb2 8 Shapes1.Facts₀.slices_S16_o8_S1 Shapes1.Facts₀.inpos_S1_p0 Shapes1.Facts₀.shapeCasts_S16_S16 _ rfl) _ rfl); iexact HT8
  isplitl [HT9]
  · iapply (rest_to d L cF hcF ev q 2 ⟨16 * g.val + 1 + 1 + 1 + 1 + 1 + 1 + 1 + 1 + 1, _⟩ _ _ (word_eq d L cF 2 g.val (k1_off81 g) (K1.Facts₀.k1_off81_inb g) (16 * g.val + 128) rfl hb2 9 Shapes1.Facts₀.slices_S16_o9_S1 Shapes1.Facts₀.inpos_S1_p0 Shapes1.Facts₀.shapeCasts_S16_S16 _ rfl) _ rfl); iexact HT9
  isplitl [HT10]
  · iapply (rest_to d L cF hcF ev q 2 ⟨16 * g.val + 1 + 1 + 1 + 1 + 1 + 1 + 1 + 1 + 1 + 1, _⟩ _ _ (word_eq d L cF 2 g.val (k1_off81 g) (K1.Facts₀.k1_off81_inb g) (16 * g.val + 128) rfl hb2 10 Shapes1.Facts₀.slices_S16_o10_S1 Shapes1.Facts₀.inpos_S1_p0 Shapes1.Facts₀.shapeCasts_S16_S16 _ rfl) _ rfl); iexact HT10
  isplitl [HT11]
  · iapply (rest_to d L cF hcF ev q 2 ⟨16 * g.val + 1 + 1 + 1 + 1 + 1 + 1 + 1 + 1 + 1 + 1 + 1, _⟩ _ _ (word_eq d L cF 2 g.val (k1_off81 g) (K1.Facts₀.k1_off81_inb g) (16 * g.val + 128) rfl hb2 11 Shapes1.Facts₀.slices_S16_o11_S1 Shapes1.Facts₀.inpos_S1_p0 Shapes1.Facts₀.shapeCasts_S16_S16 _ rfl) _ rfl); iexact HT11
  isplitl [HT12]
  · iapply (rest_to d L cF hcF ev q 2 ⟨16 * g.val + 1 + 1 + 1 + 1 + 1 + 1 + 1 + 1 + 1 + 1 + 1 + 1, _⟩ _ _ (word_eq d L cF 2 g.val (k1_off81 g) (K1.Facts₀.k1_off81_inb g) (16 * g.val + 128) rfl hb2 12 Shapes1.Facts₀.slices_S16_o12_S1 Shapes1.Facts₀.inpos_S1_p0 Shapes1.Facts₀.shapeCasts_S16_S16 _ rfl) _ rfl); iexact HT12
  isplitl [HT13]
  · iapply (rest_to d L cF hcF ev q 2 ⟨16 * g.val + 1 + 1 + 1 + 1 + 1 + 1 + 1 + 1 + 1 + 1 + 1 + 1 + 1, _⟩ _ _ (word_eq d L cF 2 g.val (k1_off81 g) (K1.Facts₀.k1_off81_inb g) (16 * g.val + 128) rfl hb2 13 Shapes1.Facts₀.slices_S16_o13_S1 Shapes1.Facts₀.inpos_S1_p0 Shapes1.Facts₀.shapeCasts_S16_S16 _ rfl) _ rfl); iexact HT13
  isplitl [HT14]
  · iapply (rest_to d L cF hcF ev q 2 ⟨16 * g.val + 1 + 1 + 1 + 1 + 1 + 1 + 1 + 1 + 1 + 1 + 1 + 1 + 1 + 1, _⟩ _ _ (word_eq d L cF 2 g.val (k1_off81 g) (K1.Facts₀.k1_off81_inb g) (16 * g.val + 128) rfl hb2 14 Shapes1.Facts₀.slices_S16_o14_S1 Shapes1.Facts₀.inpos_S1_p0 Shapes1.Facts₀.shapeCasts_S16_S16 _ rfl) _ rfl); iexact HT14
  isplitl [HT15]
  · iapply (rest_to d L cF hcF ev q 2 ⟨16 * g.val + 1 + 1 + 1 + 1 + 1 + 1 + 1 + 1 + 1 + 1 + 1 + 1 + 1 + 1 + 1, _⟩ _ _ (word_eq d L cF 2 g.val (k1_off81 g) (K1.Facts₀.k1_off81_inb g) (16 * g.val + 128) rfl hb2 15 Shapes1.Facts₀.slices_S16_o15_S1 Shapes1.Facts₀.inpos_S1_p0 Shapes1.Facts₀.shapeCasts_S16_S16 _ rfl) _ rfl); iexact HT15
  iempintro

end Cert.Proof.TileVIssue2

end
-- ==== Proof.TileVIssue3.lean ====
/-
  Chunk 3's issue trip. Trip `g` of the chunk's issue loop loads the 16 centre words of elements `16g … 16g + 15`
  of the chunk and starts, for each, the copy of the table row it names into row `16g + l` of the gathered-rows
  scratch, all on the one gather semaphore: transfers `16g … 16g + 15` of the chunk's batch. Each word is below
  the table's extent (the index scratch holds the subcore's centre words); each copy's delivery is the batch's.
-/
import proofs.«218857_g62938450756068_cont_9to1c4b_813_41_alg».proof.Proof.TileVWord

set_option maxRecDepth 100000

noncomputable section

namespace Cert.Proof.TileVIssue3

open Cert.KernelIdeal Cert.KernelIdeal.Gen Cert.Proof.KernelIdealBase Cert.Proof.TileVDefs Cert.Proof.TileVMem Cert.Proof.TileVInv
open Cert.Proof.TileVIssueLem Cert.Proof.TileVWord

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (L : grid1.Coords)
variable (cF : Buf (Elt F) (l0 d L)) (hcF : ∀ x : S512.Idx, ((cF : S512.Idx → BitVec 32) x).toNat < 1000000)
variable (ev : Buf (Elt F) (lev d L)) (q : PosShare TreeShare)

set_option maxHeartbeats 0 in
theorem issue_step3 [∀ e, Nonempty (Elt F e)] (v2 : BitVec 32) (g : Fin k1_t10_loop.trips) (acc : Unit) :
    issueAt d L cF hcF ev q 3 g.val acc
      ⊢ wp frame (wpE (defs₀ (F := F)) 𝒱₀ (thr d L) none) Set.univ
          (k1_t10_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 v2 g acc)
          (issueAt d L cF hcF ev q 3 (g.val + 1)) := by
  have hg : g.val < 4 := g.isLt
  have hb3 : 16 * g.val + 192 = 64 * (3 : Fin 8).val + 16 * g.val := by show 16 * g.val + 192 = 64 * 3 + 16 * g.val; omega
  unfold issueAt
  rw [show 16 * (g.val + 1) = 16 * g.val + 1 + 1 + 1 + 1 + 1 + 1 + 1 + 1 + 1 + 1 + 1 + 1 + 1 + 1 + 1 + 1 from by omega]
  rw [Ring.bigSep_rangeSet_head (Φ := rowOwn d L) (lo := 16 * g.val) (by omega) (by omega),
    Ring.bigSep_rangeSet_head (Φ := rowOwn d L) (lo := 16 * g.val + 1) (by omega) (by omega),
    Ring.bigSep_rangeSet_head (Φ := rowOwn d L) (lo := 16 * g.val + 1 + 1) (by omega) (by omega),
    Ring.bigSep_rangeSet_head (Φ := rowOwn d L) (lo := 16 * g.val + 1 + 1 + 1) (by omega) (by omega),
    Ring.bigSep_rangeSet_head (Φ := rowOwn d L) (lo := 16 * g.val + 1 + 1 + 1 + 1) (by omega) (by omega),
    Ring.bigSep_rangeSet_head (Φ := rowOwn d L) (lo := 16 * g.val + 1 + 1 + 1 + 1 + 1) (by omega) (by omega),
    Ring.bigSep_rangeSet_head (Φ := rowOwn d L) (lo := 16 * g.val + 1 + 1 + 1 + 1 + 1 + 1) (by omega) (by omega),
    Ring.bigSep_rangeSet_head (Φ := rowOwn d L) (lo := 16 * g.val + 1 + 1 + 1 + 1 + 1 + 1 + 1) (by omega) (by omega),
    Ring.bigSep_rangeSet_head (Φ := rowOwn d L) (lo := 16 * g.val + 1 + 1 + 1 + 1 + 1 + 1 + 1 + 1) (by omega) (by omega),
    Ring.bigSep_rangeSet_head (Φ := rowOwn d L) (lo := 16 * g.val + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1 + 1) (by omega) (by omega),
    Ring.bigSep_rangeSet_head (Φ := tok d L ev q) (lo := 16 * g.val) (by omega) (by omega),
    Ring.bigSep_rangeSet_head (Φ := tok d L ev q) (lo := 16 * g.val + 1) (by omega) (by omega),
    Ring.bigSep_rangeSet_head (Φ := tok d L ev q) (lo := 16 * g.val + 1 + 1) (by omega) (by omega),
    Ring.bigSep_rangeSet_head (Φ := tok d L ev q) (lo := 16 * g.val + 1 + 1 + 1) (by omega) (by omega),
    Ring.bigSep_rangeSet_head (Φ := tok d L ev q) (lo := 16 * g.val + 1 + 1 + 1 + 1) (by omega) (by omega),
    Ring.bigSep_rangeSet_head (Φ := tok d L ev q) (lo := 16 * g.val + 1 + 1 + 1 + 1 + 1) (by omega) (by omega),
    Ring.bigSep_rangeSet_head (Φ := tok d L ev q) (lo := 16 * g.val + 1 + 1 + 1 + 1 + 1 + 1) (by omega) (by omega),
    Ring.bigSep_rangeSet_head (Φ := tok d L ev q) (lo := 16 * g.val + 1 + 1 + 1 + 1 + 1 + 1 + 1) (by omega) (by omega),
    Ring.bigSep_rangeSet_head (Φ := tok d L ev q) (lo := 16 * g.val + 1 + 1 + 1 + 1 + 1 + 1 + 1 + 1) (by omega) (by omega),
    Ring.bigSep_rangeSet_head (Φ := tok d L ev q) (lo := 16 * g.val + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1 + 1) (by omega) (by omega)]
  rw [Ring.bigSep_rangeSet_split (Φ := tokRest d L cF hcF ev q 3) (a := 0) (b := 16 * g.val) (d := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_empty (Φ := tokRest d L cF hcF ev q 3) (lo := 16 * g.val + 1 + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (le_refl _)]
  iintro ⟨HB, Hc, ⟨HR0, HR1, HR2, HR3, HR4, HR5, HR6, HR7, HR8, HR9, HR10, HR11, HR12, HR13, HR14, HR15, HRs⟩, ⟨HT0, HT1, HT2, HT3, HT4, HT5, HT6, HT7, HT8, HT9, HT10, HT11, HT12, HT13, HT14, HT15, HTs⟩, Hrest⟩
  ihave HR0' := (rowOwn_to d L ⟨16 * g.val, _⟩ (k1_off123 g 0#32) (K1.Facts₀.k1_off123_inb g 0) rfl) $$ HR0
  icases HR0' with ⟨%f0, HR0⟩
  ihave HR1' := (rowOwn_to d L ⟨16 * g.val + 1, _⟩ (k1_off125 g 1#32) (K1.Facts₀.k1_off125_inb g 0) rfl) $$ HR1
  icases HR1' with ⟨%f1, HR1⟩
  ihave HR2' := (rowOwn_to d L ⟨16 * g.val + 1 + 1, _⟩ (k1_off127 g 2#32) (K1.Facts₀.k1_off127_inb g 0) rfl) $$ HR2
  icases HR2' with ⟨%f2, HR2⟩
  ihave HR3' := (rowOwn_to d L ⟨16 * g.val + 1 + 1 + 1, _⟩ (k1_off129 g 3#32) (K1.Facts₀.k1_off129_inb g 0) rfl) $$ HR3
  icases HR3' with ⟨%f3, HR3⟩
  ihave HR4' := (rowOwn_to d L ⟨16 * g.val + 1 + 1 + 1 + 1, _⟩ (k1_off131 g 4#32) (K1.Facts₀.k1_off131_inb g 0) rfl) $$ HR4
  icases HR4' with ⟨%f4, HR4⟩
  ihave HR5' := (rowOwn_to d L ⟨16 * g.val + 1 + 1 + 1 + 1 + 1, _⟩ (k1_off133 g 5#32) (K1.Facts₀.k1_off133_inb g 0) rfl) $$ HR5
  icases HR5' with ⟨%f5, HR5⟩
  ihave HR6' := (rowOwn_to d L ⟨16 * g.val + 1 + 1 + 1 + 1 + 1 + 1, _⟩ (k1_off135 g 6#32) (K1.Facts₀.k1_off135_inb g 0) rfl) $$ HR6
  icases HR6' with ⟨%f6, HR6⟩
  ihave HR7' := (rowOwn_to d L ⟨16 * g.val + 1 + 1 + 1 + 1 + 1 + 1 + 1, _⟩ (k1_off137 g 7#32) (K1.Facts₀.k1_off137_inb g 0) rfl) $$ HR7
  icases HR7' with ⟨%f7, HR7⟩
  ihave HR8' := (rowOwn_to d L ⟨16 * g.val + 1 + 1 + 1 + 1 + 1 + 1 + 1 + 1, _⟩ (k1_off139 g 8#32) (K1.Facts₀.k1_off139_inb g 0) rfl) $$ HR8
  icases HR8' with ⟨%f8, HR8⟩
  ihave HR9' := (rowOwn_to d L ⟨16 * g.val + 1 + 1 + 1 + 1 + 1 + 1 + 1 + 1 + 1, _⟩ (k1_off141 g 9#32) (K1.Facts₀.k1_off141_inb g 0) rfl) $$ HR9
  icases HR9' with ⟨%f9, HR9⟩
  ihave HR10' := (rowOwn_to d L ⟨16 * g.val + 1 + 1 + 1 + 1 + 1 + 1 + 1 + 1 + 1 + 1, _⟩ (k1_off143 g 10#32) (K1.Facts₀.k1_off143_inb g 0) rfl) $$ HR10
  icases HR10' with ⟨%f10, HR10⟩
  ihave HR11' := (rowOwn_to d L ⟨16 * g.val + 1 + 1 + 1 + 1 + 1 + 1 + 1 + 1 + 1 + 1 + 1, _⟩ (k1_off145 g 11#32) (K1.Facts₀.k1_off145_inb g 0) rfl) $$ HR11
  icases HR11' with ⟨%f11, HR11⟩
  ihave HR12' := (rowOwn_to d L ⟨16 * g.val + 1 + 1 + 1 + 1 + 1 + 1 + 1 + 1 + 1 + 1 + 1 + 1, _⟩ (k1_off147 g 12#32) (K1.Facts₀.k1_off147_inb g 0) rfl) $$ HR12
  icases HR12' with ⟨%f12, HR12⟩
  ihave HR13' := (rowOwn_to d L ⟨16 * g.val + 1 + 1 + 1 + 1 + 1 + 1 + 1 + 1 + 1 + 1 + 1 + 1 + 1, _⟩ (k1_off149 g 13#32) (K1.Facts₀.k1_off149_inb g 0) rfl) $$ HR13
  icases HR13' with ⟨%f13, HR13⟩
  ihave HR14' := (rowOwn_to d L ⟨16 * g.val + 1 + 1 + 1 + 1 + 1 + 1 + 1 + 1 + 1 + 1 + 1 + 1 + 1 + 1, _⟩ (k1_off151 g 14#32) (K1.Facts₀.k1_off151_inb g 0) rfl) $$ HR14
  icases HR14' with ⟨%f14, HR14⟩
  ihave HR15' := (rowOwn_to d L ⟨16 * g.val + 1 + 1 + 1 + 1 + 1 + 1 + 1 + 1 + 1 + 1 + 1 + 1 + 1 + 1 + 1, _⟩ (k1_off153 g) (K1.Facts₀.k1_off153_inb g) rfl) $$ HR15
  icases HR15' with ⟨%f15, HR15⟩
  sl_unfold [k1_t10_body]
  sl_exec (disch := first
    | omega
    | exact TileVRect.row_inb _ (hcF _)
    | exact deliver d L cF hcF ev q 3 _ _ _ rfl _ _ (word_eq d L cF 3 g.val _ _ (16 * g.val + 192) rfl hb3 _ (by decide) (by decide) _ _ rfl) _ _ rfl _ rfl)
  sl_step
  isplitl [HB]; · iexact HB
  isplitl [Hc]; · iexact Hc
  isplitl [HRs]; · iexact HRs
  isplitl [HTs]; · iexact HTs
  isplitl [Hrest]; · iexact Hrest
  isplitl [HT0]
  · iapply (rest_to d L cF hcF ev q 3 ⟨16 * g.val, _⟩ _ _ (word_eq d L cF 3 g.val (k1_off120 g) (K1.Facts₀.k1_off120_inb g) (16 * g.val + 192) rfl hb3 0 Shapes1.Facts₀.slices_S16_o0_S1 Shapes1.Facts₀.inpos_S1_p0 Shapes1.Facts₀.shapeCasts_S16_S16 _ rfl) _ rfl); iexact HT0
  isplitl [HT1]
  · iapply (rest_to d L cF hcF ev q 3 ⟨16 * g.val + 1, _⟩ _ _ (word_eq d L cF 3 g.val (k1_off120 g) (K1.Facts₀.k1_off120_inb g) (16 * g.val + 192) rfl hb3 1 Shapes1.Facts₀.slices_S16_o1_S1 Shapes1.Facts₀.inpos_S1_p0 Shapes1.Facts₀.shapeCasts_S16_S16 _ rfl) _ rfl); iexact HT1
  isplitl [HT2]
  · iapply (rest_to d L cF hcF ev q 3 ⟨16 * g.val + 1 + 1, _⟩ _ _ (word_eq d L cF 3 g.val (k1_off120 g) (K1.Facts₀.k1_off120_inb g) (16 * g.val + 192) rfl hb3 2 Shapes1.Facts₀.slices_S16_o2_S1 Shapes1.Facts₀.inpos_S1_p0 Shapes1.Facts₀.shapeCasts_S16_S16 _ rfl) _ rfl); iexact HT2
  isplitl [HT3]
  · iapply (rest_to d L cF hcF ev q 3 ⟨16 * g.val + 1 + 1 + 1, _⟩ _ _ (word_eq d L cF 3 g.val (k1_off120 g) (K1.Facts₀.k1_off120_inb g) (16 * g.val + 192) rfl hb3 3 Shapes1.Facts₀.slices_S16_o3_S1 Shapes1.Facts₀.inpos_S1_p0 Shapes1.Facts₀.shapeCasts_S16_S16 _ rfl) _ rfl); iexact HT3
  isplitl [HT4]
  · iapply (rest_to d L cF hcF ev q 3 ⟨16 * g.val + 1 + 1 + 1 + 1, _⟩ _ _ (word_eq d L cF 3 g.val (k1_off120 g) (K1.Facts₀.k1_off120_inb g) (16 * g.val + 192) rfl hb3 4 Shapes1.Facts₀.slices_S16_o4_S1 Shapes1.Facts₀.inpos_S1_p0 Shapes1.Facts₀.shapeCasts_S16_S16 _ rfl) _ rfl); iexact HT4
  isplitl [HT5]
  · iapply (rest_to d L cF hcF ev q 3 ⟨16 * g.val + 1 + 1 + 1 + 1 + 1, _⟩ _ _ (word_eq d L cF 3 g.val (k1_off120 g) (K1.Facts₀.k1_off120_inb g) (16 * g.val + 192) rfl hb3 5 Shapes1.Facts₀.slices_S16_o5_S1 Shapes1.Facts₀.inpos_S1_p0 Shapes1.Facts₀.shapeCasts_S16_S16 _ rfl) _ rfl); iexact HT5
  isplitl [HT6]
  · iapply (rest_to d L cF hcF ev q 3 ⟨16 * g.val + 1 + 1 + 1 + 1 + 1 + 1, _⟩ _ _ (word_eq d L cF 3 g.val (k1_off120 g) (K1.Facts₀.k1_off120_inb g) (16 * g.val + 192) rfl hb3 6 Shapes1.Facts₀.slices_S16_o6_S1 Shapes1.Facts₀.inpos_S1_p0 Shapes1.Facts₀.shapeCasts_S16_S16 _ rfl) _ rfl); iexact HT6
  isplitl [HT7]
  · iapply (rest_to d L cF hcF ev q 3 ⟨16 * g.val + 1 + 1 + 1 + 1 + 1 + 1 + 1, _⟩ _ _ (word_eq d L cF 3 g.val (k1_off120 g) (K1.Facts₀.k1_off120_inb g) (16 * g.val + 192) rfl hb3 7 Shapes1.Facts₀.slices_S16_o7_S1 Shapes1.Facts₀.inpos_S1_p0 Shapes1.Facts₀.shapeCasts_S16_S16 _ rfl) _ rfl); iexact HT7
  isplitl [HT8]
  · iapply (rest_to d L cF hcF ev q 3 ⟨16 * g.val + 1 + 1 + 1 + 1 + 1 + 1 + 1 + 1, _⟩ _ _ (word_eq d L cF 3 g.val (k1_off120 g) (K1.Facts₀.k1_off120_inb g) (16 * g.val + 192) rfl hb3 8 Shapes1.Facts₀.slices_S16_o8_S1 Shapes1.Facts₀.inpos_S1_p0 Shapes1.Facts₀.shapeCasts_S16_S16 _ rfl) _ rfl); iexact HT8
  isplitl [HT9]
  · iapply (rest_to d L cF hcF ev q 3 ⟨16 * g.val + 1 + 1 + 1 + 1 + 1 + 1 + 1 + 1 + 1, _⟩ _ _ (word_eq d L cF 3 g.val (k1_off120 g) (K1.Facts₀.k1_off120_inb g) (16 * g.val + 192) rfl hb3 9 Shapes1.Facts₀.slices_S16_o9_S1 Shapes1.Facts₀.inpos_S1_p0 Shapes1.Facts₀.shapeCasts_S16_S16 _ rfl) _ rfl); iexact HT9
  isplitl [HT10]
  · iapply (rest_to d L cF hcF ev q 3 ⟨16 * g.val + 1 + 1 + 1 + 1 + 1 + 1 + 1 + 1 + 1 + 1, _⟩ _ _ (word_eq d L cF 3 g.val (k1_off120 g) (K1.Facts₀.k1_off120_inb g) (16 * g.val + 192) rfl hb3 10 Shapes1.Facts₀.slices_S16_o10_S1 Shapes1.Facts₀.inpos_S1_p0 Shapes1.Facts₀.shapeCasts_S16_S16 _ rfl) _ rfl); iexact HT10
  isplitl [HT11]
  · iapply (rest_to d L cF hcF ev q 3 ⟨16 * g.val + 1 + 1 + 1 + 1 + 1 + 1 + 1 + 1 + 1 + 1 + 1, _⟩ _ _ (word_eq d L cF 3 g.val (k1_off120 g) (K1.Facts₀.k1_off120_inb g) (16 * g.val + 192) rfl hb3 11 Shapes1.Facts₀.slices_S16_o11_S1 Shapes1.Facts₀.inpos_S1_p0 Shapes1.Facts₀.shapeCasts_S16_S16 _ rfl) _ rfl); iexact HT11
  isplitl [HT12]
  · iapply (rest_to d L cF hcF ev q 3 ⟨16 * g.val + 1 + 1 + 1 + 1 + 1 + 1 + 1 + 1 + 1 + 1 + 1 + 1, _⟩ _ _ (word_eq d L cF 3 g.val (k1_off120 g) (K1.Facts₀.k1_off120_inb g) (16 * g.val + 192) rfl hb3 12 Shapes1.Facts₀.slices_S16_o12_S1 Shapes1.Facts₀.inpos_S1_p0 Shapes1.Facts₀.shapeCasts_S16_S16 _ rfl) _ rfl); iexact HT12
  isplitl [HT13]
  · iapply (rest_to d L cF hcF ev q 3 ⟨16 * g.val + 1 + 1 + 1 + 1 + 1 + 1 + 1 + 1 + 1 + 1 + 1 + 1 + 1, _⟩ _ _ (word_eq d L cF 3 g.val (k1_off120 g) (K1.Facts₀.k1_off120_inb g) (16 * g.val + 192) rfl hb3 13 Shapes1.Facts₀.slices_S16_o13_S1 Shapes1.Facts₀.inpos_S1_p0 Shapes1.Facts₀.shapeCasts_S16_S16 _ rfl) _ rfl); iexact HT13
  isplitl [HT14]
  · iapply (rest_to d L cF hcF ev q 3 ⟨16 * g.val + 1 + 1 + 1 + 1 + 1 + 1 + 1 + 1 + 1 + 1 + 1 + 1 + 1 + 1, _⟩ _ _ (word_eq d L cF 3 g.val (k1_off120 g) (K1.Facts₀.k1_off120_inb g) (16 * g.val + 192) rfl hb3 14 Shapes1.Facts₀.slices_S16_o14_S1 Shapes1.Facts₀.inpos_S1_p0 Shapes1.Facts₀.shapeCasts_S16_S16 _ rfl) _ rfl); iexact HT14
  isplitl [HT15]
  · iapply (rest_to d L cF hcF ev q 3 ⟨16 * g.val + 1 + 1 + 1 + 1 + 1 + 1 + 1 + 1 + 1 + 1 + 1 + 1 + 1 + 1 + 1, _⟩ _ _ (word_eq d L cF 3 g.val (k1_off120 g) (K1.Facts₀.k1_off120_inb g) (16 * g.val + 192) rfl hb3 15 Shapes1.Facts₀.slices_S16_o15_S1 Shapes1.Facts₀.inpos_S1_p0 Shapes1.Facts₀.shapeCasts_S16_S16 _ rfl) _ rfl); iexact HT15
  iempintro

end Cert.Proof.TileVIssue3

end
-- ==== Proof.TileVIssue4.lean ====
/-
  Chunk 4's issue trip. Trip `g` of the chunk's issue loop loads the 16 centre words of elements `16g … 16g + 15`
  of the chunk and starts, for each, the copy of the table row it names into row `16g + l` of the gathered-rows
  scratch, all on the one gather semaphore: transfers `16g … 16g + 15` of the chunk's batch. Each word is below
  the table's extent (the index scratch holds the subcore's centre words); each copy's delivery is the batch's.
-/
import proofs.«218857_g62938450756068_cont_9to1c4b_813_41_alg».proof.Proof.TileVWord

set_option maxRecDepth 100000

noncomputable section

namespace Cert.Proof.TileVIssue4

open Cert.KernelIdeal Cert.KernelIdeal.Gen Cert.Proof.KernelIdealBase Cert.Proof.TileVDefs Cert.Proof.TileVMem Cert.Proof.TileVInv
open Cert.Proof.TileVIssueLem Cert.Proof.TileVWord

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (L : grid1.Coords)
variable (cF : Buf (Elt F) (l0 d L)) (hcF : ∀ x : S512.Idx, ((cF : S512.Idx → BitVec 32) x).toNat < 1000000)
variable (ev : Buf (Elt F) (lev d L)) (q : PosShare TreeShare)

set_option maxHeartbeats 0 in
theorem issue_step4 [∀ e, Nonempty (Elt F e)] (v2 : BitVec 32) (g : Fin k1_t13_loop.trips) (acc : Unit) :
    issueAt d L cF hcF ev q 4 g.val acc
      ⊢ wp frame (wpE (defs₀ (F := F)) 𝒱₀ (thr d L) none) Set.univ
          (k1_t13_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 v2 g acc)
          (issueAt d L cF hcF ev q 4 (g.val + 1)) := by
  have hg : g.val < 4 := g.isLt
  have hb4 : 16 * g.val + 256 = 64 * (4 : Fin 8).val + 16 * g.val := by show 16 * g.val + 256 = 64 * 4 + 16 * g.val; omega
  unfold issueAt
  rw [show 16 * (g.val + 1) = 16 * g.val + 1 + 1 + 1 + 1 + 1 + 1 + 1 + 1 + 1 + 1 + 1 + 1 + 1 + 1 + 1 + 1 from by omega]
  rw [Ring.bigSep_rangeSet_head (Φ := rowOwn d L) (lo := 16 * g.val) (by omega) (by omega),
    Ring.bigSep_rangeSet_head (Φ := rowOwn d L) (lo := 16 * g.val + 1) (by omega) (by omega),
    Ring.bigSep_rangeSet_head (Φ := rowOwn d L) (lo := 16 * g.val + 1 + 1) (by omega) (by omega),
    Ring.bigSep_rangeSet_head (Φ := rowOwn d L) (lo := 16 * g.val + 1 + 1 + 1) (by omega) (by omega),
    Ring.bigSep_rangeSet_head (Φ := rowOwn d L) (lo := 16 * g.val + 1 + 1 + 1 + 1) (by omega) (by omega),
    Ring.bigSep_rangeSet_head (Φ := rowOwn d L) (lo := 16 * g.val + 1 + 1 + 1 + 1 + 1) (by omega) (by omega),
    Ring.bigSep_rangeSet_head (Φ := rowOwn d L) (lo := 16 * g.val + 1 + 1 + 1 + 1 + 1 + 1) (by omega) (by omega),
    Ring.bigSep_rangeSet_head (Φ := rowOwn d L) (lo := 16 * g.val + 1 + 1 + 1 + 1 + 1 + 1 + 1) (by omega) (by omega),
    Ring.bigSep_rangeSet_head (Φ := rowOwn d L) (lo := 16 * g.val + 1 + 1 + 1 + 1 + 1 + 1 + 1 + 1) (by omega) (by omega),
    Ring.bigSep_rangeSet_head (Φ := rowOwn d L) (lo := 16 * g.val + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1 + 1) (by omega) (by omega),
    Ring.bigSep_rangeSet_head (Φ := tok d L ev q) (lo := 16 * g.val) (by omega) (by omega),
    Ring.bigSep_rangeSet_head (Φ := tok d L ev q) (lo := 16 * g.val + 1) (by omega) (by omega),
    Ring.bigSep_rangeSet_head (Φ := tok d L ev q) (lo := 16 * g.val + 1 + 1) (by omega) (by omega),
    Ring.bigSep_rangeSet_head (Φ := tok d L ev q) (lo := 16 * g.val + 1 + 1 + 1) (by omega) (by omega),
    Ring.bigSep_rangeSet_head (Φ := tok d L ev q) (lo := 16 * g.val + 1 + 1 + 1 + 1) (by omega) (by omega),
    Ring.bigSep_rangeSet_head (Φ := tok d L ev q) (lo := 16 * g.val + 1 + 1 + 1 + 1 + 1) (by omega) (by omega),
    Ring.bigSep_rangeSet_head (Φ := tok d L ev q) (lo := 16 * g.val + 1 + 1 + 1 + 1 + 1 + 1) (by omega) (by omega),
    Ring.bigSep_rangeSet_head (Φ := tok d L ev q) (lo := 16 * g.val + 1 + 1 + 1 + 1 + 1 + 1 + 1) (by omega) (by omega),
    Ring.bigSep_rangeSet_head (Φ := tok d L ev q) (lo := 16 * g.val + 1 + 1 + 1 + 1 + 1 + 1 + 1 + 1) (by omega) (by omega),
    Ring.bigSep_rangeSet_head (Φ := tok d L ev q) (lo := 16 * g.val + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1 + 1) (by omega) (by omega)]
  rw [Ring.bigSep_rangeSet_split (Φ := tokRest d L cF hcF ev q 4) (a := 0) (b := 16 * g.val) (d := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_empty (Φ := tokRest d L cF hcF ev q 4) (lo := 16 * g.val + 1 + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (le_refl _)]
  iintro ⟨HB, Hc, ⟨HR0, HR1, HR2, HR3, HR4, HR5, HR6, HR7, HR8, HR9, HR10, HR11, HR12, HR13, HR14, HR15, HRs⟩, ⟨HT0, HT1, HT2, HT3, HT4, HT5, HT6, HT7, HT8, HT9, HT10, HT11, HT12, HT13, HT14, HT15, HTs⟩, Hrest⟩
  ihave HR0' := (rowOwn_to d L ⟨16 * g.val, _⟩ (k1_off162 g 0#32) (K1.Facts₀.k1_off162_inb g 0) rfl) $$ HR0
  icases HR0' with ⟨%f0, HR0⟩
  ihave HR1' := (rowOwn_to d L ⟨16 * g.val + 1, _⟩ (k1_off164 g 1#32) (K1.Facts₀.k1_off164_inb g 0) rfl) $$ HR1
  icases HR1' with ⟨%f1, HR1⟩
  ihave HR2' := (rowOwn_to d L ⟨16 * g.val + 1 + 1, _⟩ (k1_off166 g 2#32) (K1.Facts₀.k1_off166_inb g 0) rfl) $$ HR2
  icases HR2' with ⟨%f2, HR2⟩
  ihave HR3' := (rowOwn_to d L ⟨16 * g.val + 1 + 1 + 1, _⟩ (k1_off168 g 3#32) (K1.Facts₀.k1_off168_inb g 0) rfl) $$ HR3
  icases HR3' with ⟨%f3, HR3⟩
  ihave HR4' := (rowOwn_to d L ⟨16 * g.val + 1 + 1 + 1 + 1, _⟩ (k1_off170 g 4#32) (K1.Facts₀.k1_off170_inb g 0) rfl) $$ HR4
  icases HR4' with ⟨%f4, HR4⟩
  ihave HR5' := (rowOwn_to d L ⟨16 * g.val + 1 + 1 + 1 + 1 + 1, _⟩ (k1_off172 g 5#32) (K1.Facts₀.k1_off172_inb g 0) rfl) $$ HR5
  icases HR5' with ⟨%f5, HR5⟩
  ihave HR6' := (rowOwn_to d L ⟨16 * g.val + 1 + 1 + 1 + 1 + 1 + 1, _⟩ (k1_off174 g 6#32) (K1.Facts₀.k1_off174_inb g 0) rfl) $$ HR6
  icases HR6' with ⟨%f6, HR6⟩
  ihave HR7' := (rowOwn_to d L ⟨16 * g.val + 1 + 1 + 1 + 1 + 1 + 1 + 1, _⟩ (k1_off176 g 7#32) (K1.Facts₀.k1_off176_inb g 0) rfl) $$ HR7
  icases HR7' with ⟨%f7, HR7⟩
  ihave HR8' := (rowOwn_to d L ⟨16 * g.val + 1 + 1 + 1 + 1 + 1 + 1 + 1 + 1, _⟩ (k1_off178 g 8#32) (K1.Facts₀.k1_off178_inb g 0) rfl) $$ HR8
  icases HR8' with ⟨%f8, HR8⟩
  ihave HR9' := (rowOwn_to d L ⟨16 * g.val + 1 + 1 + 1 + 1 + 1 + 1 + 1 + 1 + 1, _⟩ (k1_off180 g 9#32) (K1.Facts₀.k1_off180_inb g 0) rfl) $$ HR9
  icases HR9' with ⟨%f9, HR9⟩
  ihave HR10' := (rowOwn_to d L ⟨16 * g.val + 1 + 1 + 1 + 1 + 1 + 1 + 1 + 1 + 1 + 1, _⟩ (k1_off182 g 10#32) (K1.Facts₀.k1_off182_inb g 0) rfl) $$ HR10
  icases HR10' with ⟨%f10, HR10⟩
  ihave HR11' := (rowOwn_to d L ⟨16 * g.val + 1 + 1 + 1 + 1 + 1 + 1 + 1 + 1 + 1 + 1 + 1, _⟩ (k1_off184 g 11#32) (K1.Facts₀.k1_off184_inb g 0) rfl) $$ HR11
  icases HR11' with ⟨%f11, HR11⟩
  ihave HR12' := (rowOwn_to d L ⟨16 * g.val + 1 + 1 + 1 + 1 + 1 + 1 + 1 + 1 + 1 + 1 + 1 + 1, _⟩ (k1_off186 g 12#32) (K1.Facts₀.k1_off186_inb g 0) rfl) $$ HR12
  icases HR12' with ⟨%f12, HR12⟩
  ihave HR13' := (rowOwn_to d L ⟨16 * g.val + 1 + 1 + 1 + 1 + 1 + 1 + 1 + 1 + 1 + 1 + 1 + 1 + 1, _⟩ (k1_off188 g 13#32) (K1.Facts₀.k1_off188_inb g 0) rfl) $$ HR13
  icases HR13' with ⟨%f13, HR13⟩
  ihave HR14' := (rowOwn_to d L ⟨16 * g.val + 1 + 1 + 1 + 1 + 1 + 1 + 1 + 1 + 1 + 1 + 1 + 1 + 1 + 1, _⟩ (k1_off190 g 14#32) (K1.Facts₀.k1_off190_inb g 0) rfl) $$ HR14
  icases HR14' with ⟨%f14, HR14⟩
  ihave HR15' := (rowOwn_to d L ⟨16 * g.val + 1 + 1 + 1 + 1 + 1 + 1 + 1 + 1 + 1 + 1 + 1 + 1 + 1 + 1 + 1, _⟩ (k1_off192 g) (K1.Facts₀.k1_off192_inb g) rfl) $$ HR15
  icases HR15' with ⟨%f15, HR15⟩
  sl_unfold [k1_t13_body]
  sl_exec (disch := first
    | omega
    | exact TileVRect.row_inb _ (hcF _)
    | exact deliver d L cF hcF ev q 4 _ _ _ rfl _ _ (word_eq d L cF 4 g.val _ _ (16 * g.val + 256) rfl hb4 _ (by decide) (by decide) _ _ rfl) _ _ rfl _ rfl)
  sl_step
  isplitl [HB]; · iexact HB
  isplitl [Hc]; · iexact Hc
  isplitl [HRs]; · iexact HRs
  isplitl [HTs]; · iexact HTs
  isplitl [Hrest]; · iexact Hrest
  isplitl [HT0]
  · iapply (rest_to d L cF hcF ev q 4 ⟨16 * g.val, _⟩ _ _ (word_eq d L cF 4 g.val (k1_off159 g) (K1.Facts₀.k1_off159_inb g) (16 * g.val + 256) rfl hb4 0 Shapes1.Facts₀.slices_S16_o0_S1 Shapes1.Facts₀.inpos_S1_p0 Shapes1.Facts₀.shapeCasts_S16_S16 _ rfl) _ rfl); iexact HT0
  isplitl [HT1]
  · iapply (rest_to d L cF hcF ev q 4 ⟨16 * g.val + 1, _⟩ _ _ (word_eq d L cF 4 g.val (k1_off159 g) (K1.Facts₀.k1_off159_inb g) (16 * g.val + 256) rfl hb4 1 Shapes1.Facts₀.slices_S16_o1_S1 Shapes1.Facts₀.inpos_S1_p0 Shapes1.Facts₀.shapeCasts_S16_S16 _ rfl) _ rfl); iexact HT1
  isplitl [HT2]
  · iapply (rest_to d L cF hcF ev q 4 ⟨16 * g.val + 1 + 1, _⟩ _ _ (word_eq d L cF 4 g.val (k1_off159 g) (K1.Facts₀.k1_off159_inb g) (16 * g.val + 256) rfl hb4 2 Shapes1.Facts₀.slices_S16_o2_S1 Shapes1.Facts₀.inpos_S1_p0 Shapes1.Facts₀.shapeCasts_S16_S16 _ rfl) _ rfl); iexact HT2
  isplitl [HT3]
  · iapply (rest_to d L cF hcF ev q 4 ⟨16 * g.val + 1 + 1 + 1, _⟩ _ _ (word_eq d L cF 4 g.val (k1_off159 g) (K1.Facts₀.k1_off159_inb g) (16 * g.val + 256) rfl hb4 3 Shapes1.Facts₀.slices_S16_o3_S1 Shapes1.Facts₀.inpos_S1_p0 Shapes1.Facts₀.shapeCasts_S16_S16 _ rfl) _ rfl); iexact HT3
  isplitl [HT4]
  · iapply (rest_to d L cF hcF ev q 4 ⟨16 * g.val + 1 + 1 + 1 + 1, _⟩ _ _ (word_eq d L cF 4 g.val (k1_off159 g) (K1.Facts₀.k1_off159_inb g) (16 * g.val + 256) rfl hb4 4 Shapes1.Facts₀.slices_S16_o4_S1 Shapes1.Facts₀.inpos_S1_p0 Shapes1.Facts₀.shapeCasts_S16_S16 _ rfl) _ rfl); iexact HT4
  isplitl [HT5]
  · iapply (rest_to d L cF hcF ev q 4 ⟨16 * g.val + 1 + 1 + 1 + 1 + 1, _⟩ _ _ (word_eq d L cF 4 g.val (k1_off159 g) (K1.Facts₀.k1_off159_inb g) (16 * g.val + 256) rfl hb4 5 Shapes1.Facts₀.slices_S16_o5_S1 Shapes1.Facts₀.inpos_S1_p0 Shapes1.Facts₀.shapeCasts_S16_S16 _ rfl) _ rfl); iexact HT5
  isplitl [HT6]
  · iapply (rest_to d L cF hcF ev q 4 ⟨16 * g.val + 1 + 1 + 1 + 1 + 1 + 1, _⟩ _ _ (word_eq d L cF 4 g.val (k1_off159 g) (K1.Facts₀.k1_off159_inb g) (16 * g.val + 256) rfl hb4 6 Shapes1.Facts₀.slices_S16_o6_S1 Shapes1.Facts₀.inpos_S1_p0 Shapes1.Facts₀.shapeCasts_S16_S16 _ rfl) _ rfl); iexact HT6
  isplitl [HT7]
  · iapply (rest_to d L cF hcF ev q 4 ⟨16 * g.val + 1 + 1 + 1 + 1 + 1 + 1 + 1, _⟩ _ _ (word_eq d L cF 4 g.val (k1_off159 g) (K1.Facts₀.k1_off159_inb g) (16 * g.val + 256) rfl hb4 7 Shapes1.Facts₀.slices_S16_o7_S1 Shapes1.Facts₀.inpos_S1_p0 Shapes1.Facts₀.shapeCasts_S16_S16 _ rfl) _ rfl); iexact HT7
  isplitl [HT8]
  · iapply (rest_to d L cF hcF ev q 4 ⟨16 * g.val + 1 + 1 + 1 + 1 + 1 + 1 + 1 + 1, _⟩ _ _ (word_eq d L cF 4 g.val (k1_off159 g) (K1.Facts₀.k1_off159_inb g) (16 * g.val + 256) rfl hb4 8 Shapes1.Facts₀.slices_S16_o8_S1 Shapes1.Facts₀.inpos_S1_p0 Shapes1.Facts₀.shapeCasts_S16_S16 _ rfl) _ rfl); iexact HT8
  isplitl [HT9]
  · iapply (rest_to d L cF hcF ev q 4 ⟨16 * g.val + 1 + 1 + 1 + 1 + 1 + 1 + 1 + 1 + 1, _⟩ _ _ (word_eq d L cF 4 g.val (k1_off159 g) (K1.Facts₀.k1_off159_inb g) (16 * g.val + 256) rfl hb4 9 Shapes1.Facts₀.slices_S16_o9_S1 Shapes1.Facts₀.inpos_S1_p0 Shapes1.Facts₀.shapeCasts_S16_S16 _ rfl) _ rfl); iexact HT9
  isplitl [HT10]
  · iapply (rest_to d L cF hcF ev q 4 ⟨16 * g.val + 1 + 1 + 1 + 1 + 1 + 1 + 1 + 1 + 1 + 1, _⟩ _ _ (word_eq d L cF 4 g.val (k1_off159 g) (K1.Facts₀.k1_off159_inb g) (16 * g.val + 256) rfl hb4 10 Shapes1.Facts₀.slices_S16_o10_S1 Shapes1.Facts₀.inpos_S1_p0 Shapes1.Facts₀.shapeCasts_S16_S16 _ rfl) _ rfl); iexact HT10
  isplitl [HT11]
  · iapply (rest_to d L cF hcF ev q 4 ⟨16 * g.val + 1 + 1 + 1 + 1 + 1 + 1 + 1 + 1 + 1 + 1 + 1, _⟩ _ _ (word_eq d L cF 4 g.val (k1_off159 g) (K1.Facts₀.k1_off159_inb g) (16 * g.val + 256) rfl hb4 11 Shapes1.Facts₀.slices_S16_o11_S1 Shapes1.Facts₀.inpos_S1_p0 Shapes1.Facts₀.shapeCasts_S16_S16 _ rfl) _ rfl); iexact HT11
  isplitl [HT12]
  · iapply (rest_to d L cF hcF ev q 4 ⟨16 * g.val + 1 + 1 + 1 + 1 + 1 + 1 + 1 + 1 + 1 + 1 + 1 + 1, _⟩ _ _ (word_eq d L cF 4 g.val (k1_off159 g) (K1.Facts₀.k1_off159_inb g) (16 * g.val + 256) rfl hb4 12 Shapes1.Facts₀.slices_S16_o12_S1 Shapes1.Facts₀.inpos_S1_p0 Shapes1.Facts₀.shapeCasts_S16_S16 _ rfl) _ rfl); iexact HT12
  isplitl [HT13]
  · iapply (rest_to d L cF hcF ev q 4 ⟨16 * g.val + 1 + 1 + 1 + 1 + 1 + 1 + 1 + 1 + 1 + 1 + 1 + 1 + 1, _⟩ _ _ (word_eq d L cF 4 g.val (k1_off159 g) (K1.Facts₀.k1_off159_inb g) (16 * g.val + 256) rfl hb4 13 Shapes1.Facts₀.slices_S16_o13_S1 Shapes1.Facts₀.inpos_S1_p0 Shapes1.Facts₀.shapeCasts_S16_S16 _ rfl) _ rfl); iexact HT13
  isplitl [HT14]
  · iapply (rest_to d L cF hcF ev q 4 ⟨16 * g.val + 1 + 1 + 1 + 1 + 1 + 1 + 1 + 1 + 1 + 1 + 1 + 1 + 1 + 1, _⟩ _ _ (word_eq d L cF 4 g.val (k1_off159 g) (K1.Facts₀.k1_off159_inb g) (16 * g.val + 256) rfl hb4 14 Shapes1.Facts₀.slices_S16_o14_S1 Shapes1.Facts₀.inpos_S1_p0 Shapes1.Facts₀.shapeCasts_S16_S16 _ rfl) _ rfl); iexact HT14
  isplitl [HT15]
  · iapply (rest_to d L cF hcF ev q 4 ⟨16 * g.val + 1 + 1 + 1 + 1 + 1 + 1 + 1 + 1 + 1 + 1 + 1 + 1 + 1 + 1 + 1, _⟩ _ _ (word_eq d L cF 4 g.val (k1_off159 g) (K1.Facts₀.k1_off159_inb g) (16 * g.val + 256) rfl hb4 15 Shapes1.Facts₀.slices_S16_o15_S1 Shapes1.Facts₀.inpos_S1_p0 Shapes1.Facts₀.shapeCasts_S16_S16 _ rfl) _ rfl); iexact HT15
  iempintro

end Cert.Proof.TileVIssue4

end
-- ==== Proof.TileVIssue5.lean ====
/-
  Chunk 5's issue trip. Trip `g` of the chunk's issue loop loads the 16 centre words of elements `16g … 16g + 15`
  of the chunk and starts, for each, the copy of the table row it names into row `16g + l` of the gathered-rows
  scratch, all on the one gather semaphore: transfers `16g … 16g + 15` of the chunk's batch. Each word is below
  the table's extent (the index scratch holds the subcore's centre words); each copy's delivery is the batch's.
-/
import proofs.«218857_g62938450756068_cont_9to1c4b_813_41_alg».proof.Proof.TileVWord

set_option maxRecDepth 100000

noncomputable section

namespace Cert.Proof.TileVIssue5

open Cert.KernelIdeal Cert.KernelIdeal.Gen Cert.Proof.KernelIdealBase Cert.Proof.TileVDefs Cert.Proof.TileVMem Cert.Proof.TileVInv
open Cert.Proof.TileVIssueLem Cert.Proof.TileVWord

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (L : grid1.Coords)
variable (cF : Buf (Elt F) (l0 d L)) (hcF : ∀ x : S512.Idx, ((cF : S512.Idx → BitVec 32) x).toNat < 1000000)
variable (ev : Buf (Elt F) (lev d L)) (q : PosShare TreeShare)

set_option maxHeartbeats 0 in
theorem issue_step5 [∀ e, Nonempty (Elt F e)] (v2 : BitVec 32) (g : Fin k1_t16_loop.trips) (acc : Unit) :
    issueAt d L cF hcF ev q 5 g.val acc
      ⊢ wp frame (wpE (defs₀ (F := F)) 𝒱₀ (thr d L) none) Set.univ
          (k1_t16_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 v2 g acc)
          (issueAt d L cF hcF ev q 5 (g.val + 1)) := by
  have hg : g.val < 4 := g.isLt
  have hb5 : 16 * g.val + 320 = 64 * (5 : Fin 8).val + 16 * g.val := by show 16 * g.val + 320 = 64 * 5 + 16 * g.val; omega
  unfold issueAt
  rw [show 16 * (g.val + 1) = 16 * g.val + 1 + 1 + 1 + 1 + 1 + 1 + 1 + 1 + 1 + 1 + 1 + 1 + 1 + 1 + 1 + 1 from by omega]
  rw [Ring.bigSep_rangeSet_head (Φ := rowOwn d L) (lo := 16 * g.val) (by omega) (by omega),
    Ring.bigSep_rangeSet_head (Φ := rowOwn d L) (lo := 16 * g.val + 1) (by omega) (by omega),
    Ring.bigSep_rangeSet_head (Φ := rowOwn d L) (lo := 16 * g.val + 1 + 1) (by omega) (by omega),
    Ring.bigSep_rangeSet_head (Φ := rowOwn d L) (lo := 16 * g.val + 1 + 1 + 1) (by omega) (by omega),
    Ring.bigSep_rangeSet_head (Φ := rowOwn d L) (lo := 16 * g.val + 1 + 1 + 1 + 1) (by omega) (by omega),
    Ring.bigSep_rangeSet_head (Φ := rowOwn d L) (lo := 16 * g.val + 1 + 1 + 1 + 1 + 1) (by omega) (by omega),
    Ring.bigSep_rangeSet_head (Φ := rowOwn d L) (lo := 16 * g.val + 1 + 1 + 1 + 1 + 1 + 1) (by omega) (by omega),
    Ring.bigSep_rangeSet_head (Φ := rowOwn d L) (lo := 16 * g.val + 1 + 1 + 1 + 1 + 1 + 1 + 1) (by omega) (by omega),
    Ring.bigSep_rangeSet_head (Φ := rowOwn d L) (lo := 16 * g.val + 1 + 1 + 1 + 1 + 1 + 1 + 1 + 1) (by omega) (by omega),
    Ring.bigSep_rangeSet_head (Φ := rowOwn d L) (lo := 16 * g.val + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1 + 1) (by omega) (by omega),
    Ring.bigSep_rangeSet_head (Φ := tok d L ev q) (lo := 16 * g.val) (by omega) (by omega),
    Ring.bigSep_rangeSet_head (Φ := tok d L ev q) (lo := 16 * g.val + 1) (by omega) (by omega),
    Ring.bigSep_rangeSet_head (Φ := tok d L ev q) (lo := 16 * g.val + 1 + 1) (by omega) (by omega),
    Ring.bigSep_rangeSet_head (Φ := tok d L ev q) (lo := 16 * g.val + 1 + 1 + 1) (by omega) (by omega),
    Ring.bigSep_rangeSet_head (Φ := tok d L ev q) (lo := 16 * g.val + 1 + 1 + 1 + 1) (by omega) (by omega),
    Ring.bigSep_rangeSet_head (Φ := tok d L ev q) (lo := 16 * g.val + 1 + 1 + 1 + 1 + 1) (by omega) (by omega),
    Ring.bigSep_rangeSet_head (Φ := tok d L ev q) (lo := 16 * g.val + 1 + 1 + 1 + 1 + 1 + 1) (by omega) (by omega),
    Ring.bigSep_rangeSet_head (Φ := tok d L ev q) (lo := 16 * g.val + 1 + 1 + 1 + 1 + 1 + 1 + 1) (by omega) (by omega),
    Ring.bigSep_rangeSet_head (Φ := tok d L ev q) (lo := 16 * g.val + 1 + 1 + 1 + 1 + 1 + 1 + 1 + 1) (by omega) (by omega),
    Ring.bigSep_rangeSet_head (Φ := tok d L ev q) (lo := 16 * g.val + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1 + 1) (by omega) (by omega)]
  rw [Ring.bigSep_rangeSet_split (Φ := tokRest d L cF hcF ev q 5) (a := 0) (b := 16 * g.val) (d := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_empty (Φ := tokRest d L cF hcF ev q 5) (lo := 16 * g.val + 1 + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (le_refl _)]
  iintro ⟨HB, Hc, ⟨HR0, HR1, HR2, HR3, HR4, HR5, HR6, HR7, HR8, HR9, HR10, HR11, HR12, HR13, HR14, HR15, HRs⟩, ⟨HT0, HT1, HT2, HT3, HT4, HT5, HT6, HT7, HT8, HT9, HT10, HT11, HT12, HT13, HT14, HT15, HTs⟩, Hrest⟩
  ihave HR0' := (rowOwn_to d L ⟨16 * g.val, _⟩ (k1_off201 g 0#32) (K1.Facts₀.k1_off201_inb g 0) rfl) $$ HR0
  icases HR0' with ⟨%f0, HR0⟩
  ihave HR1' := (rowOwn_to d L ⟨16 * g.val + 1, _⟩ (k1_off203 g 1#32) (K1.Facts₀.k1_off203_inb g 0) rfl) $$ HR1
  icases HR1' with ⟨%f1, HR1⟩
  ihave HR2' := (rowOwn_to d L ⟨16 * g.val + 1 + 1, _⟩ (k1_off205 g 2#32) (K1.Facts₀.k1_off205_inb g 0) rfl) $$ HR2
  icases HR2' with ⟨%f2, HR2⟩
  ihave HR3' := (rowOwn_to d L ⟨16 * g.val + 1 + 1 + 1, _⟩ (k1_off207 g 3#32) (K1.Facts₀.k1_off207_inb g 0) rfl) $$ HR3
  icases HR3' with ⟨%f3, HR3⟩
  ihave HR4' := (rowOwn_to d L ⟨16 * g.val + 1 + 1 + 1 + 1, _⟩ (k1_off209 g 4#32) (K1.Facts₀.k1_off209_inb g 0) rfl) $$ HR4
  icases HR4' with ⟨%f4, HR4⟩
  ihave HR5' := (rowOwn_to d L ⟨16 * g.val + 1 + 1 + 1 + 1 + 1, _⟩ (k1_off211 g 5#32) (K1.Facts₀.k1_off211_inb g 0) rfl) $$ HR5
  icases HR5' with ⟨%f5, HR5⟩
  ihave HR6' := (rowOwn_to d L ⟨16 * g.val + 1 + 1 + 1 + 1 + 1 + 1, _⟩ (k1_off213 g 6#32) (K1.Facts₀.k1_off213_inb g 0) rfl) $$ HR6
  icases HR6' with ⟨%f6, HR6⟩
  ihave HR7' := (rowOwn_to d L ⟨16 * g.val + 1 + 1 + 1 + 1 + 1 + 1 + 1, _⟩ (k1_off215 g 7#32) (K1.Facts₀.k1_off215_inb g 0) rfl) $$ HR7
  icases HR7' with ⟨%f7, HR7⟩
  ihave HR8' := (rowOwn_to d L ⟨16 * g.val + 1 + 1 + 1 + 1 + 1 + 1 + 1 + 1, _⟩ (k1_off217 g 8#32) (K1.Facts₀.k1_off217_inb g 0) rfl) $$ HR8
  icases HR8' with ⟨%f8, HR8⟩
  ihave HR9' := (rowOwn_to d L ⟨16 * g.val + 1 + 1 + 1 + 1 + 1 + 1 + 1 + 1 + 1, _⟩ (k1_off219 g 9#32) (K1.Facts₀.k1_off219_inb g 0) rfl) $$ HR9
  icases HR9' with ⟨%f9, HR9⟩
  ihave HR10' := (rowOwn_to d L ⟨16 * g.val + 1 + 1 + 1 + 1 + 1 + 1 + 1 + 1 + 1 + 1, _⟩ (k1_off221 g 10#32) (K1.Facts₀.k1_off221_inb g 0) rfl) $$ HR10
  icases HR10' with ⟨%f10, HR10⟩
  ihave HR11' := (rowOwn_to d L ⟨16 * g.val + 1 + 1 + 1 + 1 + 1 + 1 + 1 + 1 + 1 + 1 + 1, _⟩ (k1_off223 g 11#32) (K1.Facts₀.k1_off223_inb g 0) rfl) $$ HR11
  icases HR11' with ⟨%f11, HR11⟩
  ihave HR12' := (rowOwn_to d L ⟨16 * g.val + 1 + 1 + 1 + 1 + 1 + 1 + 1 + 1 + 1 + 1 + 1 + 1, _⟩ (k1_off225 g 12#32) (K1.Facts₀.k1_off225_inb g 0) rfl) $$ HR12
  icases HR12' with ⟨%f12, HR12⟩
  ihave HR13' := (rowOwn_to d L ⟨16 * g.val + 1 + 1 + 1 + 1 + 1 + 1 + 1 + 1 + 1 + 1 + 1 + 1 + 1, _⟩ (k1_off227 g 13#32) (K1.Facts₀.k1_off227_inb g 0) rfl) $$ HR13
  icases HR13' with ⟨%f13, HR13⟩
  ihave HR14' := (rowOwn_to d L ⟨16 * g.val + 1 + 1 + 1 + 1 + 1 + 1 + 1 + 1 + 1 + 1 + 1 + 1 + 1 + 1, _⟩ (k1_off229 g 14#32) (K1.Facts₀.k1_off229_inb g 0) rfl) $$ HR14
  icases HR14' with ⟨%f14, HR14⟩
  ihave HR15' := (rowOwn_to d L ⟨16 * g.val + 1 + 1 + 1 + 1 + 1 + 1 + 1 + 1 + 1 + 1 + 1 + 1 + 1 + 1 + 1, _⟩ (k1_off231 g) (K1.Facts₀.k1_off231_inb g) rfl) $$ HR15
  icases HR15' with ⟨%f15, HR15⟩
  sl_unfold [k1_t16_body]
  sl_exec (disch := first
    | omega
    | exact TileVRect.row_inb _ (hcF _)
    | exact deliver d L cF hcF ev q 5 _ _ _ rfl _ _ (word_eq d L cF 5 g.val _ _ (16 * g.val + 320) rfl hb5 _ (by decide) (by decide) _ _ rfl) _ _ rfl _ rfl)
  sl_step
  isplitl [HB]; · iexact HB
  isplitl [Hc]; · iexact Hc
  isplitl [HRs]; · iexact HRs
  isplitl [HTs]; · iexact HTs
  isplitl [Hrest]; · iexact Hrest
  isplitl [HT0]
  · iapply (rest_to d L cF hcF ev q 5 ⟨16 * g.val, _⟩ _ _ (word_eq d L cF 5 g.val (k1_off198 g) (K1.Facts₀.k1_off198_inb g) (16 * g.val + 320) rfl hb5 0 Shapes1.Facts₀.slices_S16_o0_S1 Shapes1.Facts₀.inpos_S1_p0 Shapes1.Facts₀.shapeCasts_S16_S16 _ rfl) _ rfl); iexact HT0
  isplitl [HT1]
  · iapply (rest_to d L cF hcF ev q 5 ⟨16 * g.val + 1, _⟩ _ _ (word_eq d L cF 5 g.val (k1_off198 g) (K1.Facts₀.k1_off198_inb g) (16 * g.val + 320) rfl hb5 1 Shapes1.Facts₀.slices_S16_o1_S1 Shapes1.Facts₀.inpos_S1_p0 Shapes1.Facts₀.shapeCasts_S16_S16 _ rfl) _ rfl); iexact HT1
  isplitl [HT2]
  · iapply (rest_to d L cF hcF ev q 5 ⟨16 * g.val + 1 + 1, _⟩ _ _ (word_eq d L cF 5 g.val (k1_off198 g) (K1.Facts₀.k1_off198_inb g) (16 * g.val + 320) rfl hb5 2 Shapes1.Facts₀.slices_S16_o2_S1 Shapes1.Facts₀.inpos_S1_p0 Shapes1.Facts₀.shapeCasts_S16_S16 _ rfl) _ rfl); iexact HT2
  isplitl [HT3]
  · iapply (rest_to d L cF hcF ev q 5 ⟨16 * g.val + 1 + 1 + 1, _⟩ _ _ (word_eq d L cF 5 g.val (k1_off198 g) (K1.Facts₀.k1_off198_inb g) (16 * g.val + 320) rfl hb5 3 Shapes1.Facts₀.slices_S16_o3_S1 Shapes1.Facts₀.inpos_S1_p0 Shapes1.Facts₀.shapeCasts_S16_S16 _ rfl) _ rfl); iexact HT3
  isplitl [HT4]
  · iapply (rest_to d L cF hcF ev q 5 ⟨16 * g.val + 1 + 1 + 1 + 1, _⟩ _ _ (word_eq d L cF 5 g.val (k1_off198 g) (K1.Facts₀.k1_off198_inb g) (16 * g.val + 320) rfl hb5 4 Shapes1.Facts₀.slices_S16_o4_S1 Shapes1.Facts₀.inpos_S1_p0 Shapes1.Facts₀.shapeCasts_S16_S16 _ rfl) _ rfl); iexact HT4
  isplitl [HT5]
  · iapply (rest_to d L cF hcF ev q 5 ⟨16 * g.val + 1 + 1 + 1 + 1 + 1, _⟩ _ _ (word_eq d L cF 5 g.val (k1_off198 g) (K1.Facts₀.k1_off198_inb g) (16 * g.val + 320) rfl hb5 5 Shapes1.Facts₀.slices_S16_o5_S1 Shapes1.Facts₀.inpos_S1_p0 Shapes1.Facts₀.shapeCasts_S16_S16 _ rfl) _ rfl); iexact HT5
  isplitl [HT6]
  · iapply (rest_to d L cF hcF ev q 5 ⟨16 * g.val + 1 + 1 + 1 + 1 + 1 + 1, _⟩ _ _ (word_eq d L cF 5 g.val (k1_off198 g) (K1.Facts₀.k1_off198_inb g) (16 * g.val + 320) rfl hb5 6 Shapes1.Facts₀.slices_S16_o6_S1 Shapes1.Facts₀.inpos_S1_p0 Shapes1.Facts₀.shapeCasts_S16_S16 _ rfl) _ rfl); iexact HT6
  isplitl [HT7]
  · iapply (rest_to d L cF hcF ev q 5 ⟨16 * g.val + 1 + 1 + 1 + 1 + 1 + 1 + 1, _⟩ _ _ (word_eq d L cF 5 g.val (k1_off198 g) (K1.Facts₀.k1_off198_inb g) (16 * g.val + 320) rfl hb5 7 Shapes1.Facts₀.slices_S16_o7_S1 Shapes1.Facts₀.inpos_S1_p0 Shapes1.Facts₀.shapeCasts_S16_S16 _ rfl) _ rfl); iexact HT7
  isplitl [HT8]
  · iapply (rest_to d L cF hcF ev q 5 ⟨16 * g.val + 1 + 1 + 1 + 1 + 1 + 1 + 1 + 1, _⟩ _ _ (word_eq d L cF 5 g.val (k1_off198 g) (K1.Facts₀.k1_off198_inb g) (16 * g.val + 320) rfl hb5 8 Shapes1.Facts₀.slices_S16_o8_S1 Shapes1.Facts₀.inpos_S1_p0 Shapes1.Facts₀.shapeCasts_S16_S16 _ rfl) _ rfl); iexact HT8
  isplitl [HT9]
  · iapply (rest_to d L cF hcF ev q 5 ⟨16 * g.val + 1 + 1 + 1 + 1 + 1 + 1 + 1 + 1 + 1, _⟩ _ _ (word_eq d L cF 5 g.val (k1_off198 g) (K1.Facts₀.k1_off198_inb g) (16 * g.val + 320) rfl hb5 9 Shapes1.Facts₀.slices_S16_o9_S1 Shapes1.Facts₀.inpos_S1_p0 Shapes1.Facts₀.shapeCasts_S16_S16 _ rfl) _ rfl); iexact HT9
  isplitl [HT10]
  · iapply (rest_to d L cF hcF ev q 5 ⟨16 * g.val + 1 + 1 + 1 + 1 + 1 + 1 + 1 + 1 + 1 + 1, _⟩ _ _ (word_eq d L cF 5 g.val (k1_off198 g) (K1.Facts₀.k1_off198_inb g) (16 * g.val + 320) rfl hb5 10 Shapes1.Facts₀.slices_S16_o10_S1 Shapes1.Facts₀.inpos_S1_p0 Shapes1.Facts₀.shapeCasts_S16_S16 _ rfl) _ rfl); iexact HT10
  isplitl [HT11]
  · iapply (rest_to d L cF hcF ev q 5 ⟨16 * g.val + 1 + 1 + 1 + 1 + 1 + 1 + 1 + 1 + 1 + 1 + 1, _⟩ _ _ (word_eq d L cF 5 g.val (k1_off198 g) (K1.Facts₀.k1_off198_inb g) (16 * g.val + 320) rfl hb5 11 Shapes1.Facts₀.slices_S16_o11_S1 Shapes1.Facts₀.inpos_S1_p0 Shapes1.Facts₀.shapeCasts_S16_S16 _ rfl) _ rfl); iexact HT11
  isplitl [HT12]
  · iapply (rest_to d L cF hcF ev q 5 ⟨16 * g.val + 1 + 1 + 1 + 1 + 1 + 1 + 1 + 1 + 1 + 1 + 1 + 1, _⟩ _ _ (word_eq d L cF 5 g.val (k1_off198 g) (K1.Facts₀.k1_off198_inb g) (16 * g.val + 320) rfl hb5 12 Shapes1.Facts₀.slices_S16_o12_S1 Shapes1.Facts₀.inpos_S1_p0 Shapes1.Facts₀.shapeCasts_S16_S16 _ rfl) _ rfl); iexact HT12
  isplitl [HT13]
  · iapply (rest_to d L cF hcF ev q 5 ⟨16 * g.val + 1 + 1 + 1 + 1 + 1 + 1 + 1 + 1 + 1 + 1 + 1 + 1 + 1, _⟩ _ _ (word_eq d L cF 5 g.val (k1_off198 g) (K1.Facts₀.k1_off198_inb g) (16 * g.val + 320) rfl hb5 13 Shapes1.Facts₀.slices_S16_o13_S1 Shapes1.Facts₀.inpos_S1_p0 Shapes1.Facts₀.shapeCasts_S16_S16 _ rfl) _ rfl); iexact HT13
  isplitl [HT14]
  · iapply (rest_to d L cF hcF ev q 5 ⟨16 * g.val + 1 + 1 + 1 + 1 + 1 + 1 + 1 + 1 + 1 + 1 + 1 + 1 + 1 + 1, _⟩ _ _ (word_eq d L cF 5 g.val (k1_off198 g) (K1.Facts₀.k1_off198_inb g) (16 * g.val + 320) rfl hb5 14 Shapes1.Facts₀.slices_S16_o14_S1 Shapes1.Facts₀.inpos_S1_p0 Shapes1.Facts₀.shapeCasts_S16_S16 _ rfl) _ rfl); iexact HT14
  isplitl [HT15]
  · iapply (rest_to d L cF hcF ev q 5 ⟨16 * g.val + 1 + 1 + 1 + 1 + 1 + 1 + 1 + 1 + 1 + 1 + 1 + 1 + 1 + 1 + 1, _⟩ _ _ (word_eq d L cF 5 g.val (k1_off198 g) (K1.Facts₀.k1_off198_inb g) (16 * g.val + 320) rfl hb5 15 Shapes1.Facts₀.slices_S16_o15_S1 Shapes1.Facts₀.inpos_S1_p0 Shapes1.Facts₀.shapeCasts_S16_S16 _ rfl) _ rfl); iexact HT15
  iempintro

end Cert.Proof.TileVIssue5

end
-- ==== Proof.TileVIssue6.lean ====
/-
  Chunk 6's issue trip. Trip `g` of the chunk's issue loop loads the 16 centre words of elements `16g … 16g + 15`
  of the chunk and starts, for each, the copy of the table row it names into row `16g + l` of the gathered-rows
  scratch, all on the one gather semaphore: transfers `16g … 16g + 15` of the chunk's batch. Each word is below
  the table's extent (the index scratch holds the subcore's centre words); each copy's delivery is the batch's.
-/
import proofs.«218857_g62938450756068_cont_9to1c4b_813_41_alg».proof.Proof.TileVWord

set_option maxRecDepth 100000

noncomputable section

namespace Cert.Proof.TileVIssue6

open Cert.KernelIdeal Cert.KernelIdeal.Gen Cert.Proof.KernelIdealBase Cert.Proof.TileVDefs Cert.Proof.TileVMem Cert.Proof.TileVInv
open Cert.Proof.TileVIssueLem Cert.Proof.TileVWord

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (L : grid1.Coords)
variable (cF : Buf (Elt F) (l0 d L)) (hcF : ∀ x : S512.Idx, ((cF : S512.Idx → BitVec 32) x).toNat < 1000000)
variable (ev : Buf (Elt F) (lev d L)) (q : PosShare TreeShare)

set_option maxHeartbeats 0 in
theorem issue_step6 [∀ e, Nonempty (Elt F e)] (v2 : BitVec 32) (g : Fin k1_t19_loop.trips) (acc : Unit) :
    issueAt d L cF hcF ev q 6 g.val acc
      ⊢ wp frame (wpE (defs₀ (F := F)) 𝒱₀ (thr d L) none) Set.univ
          (k1_t19_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 v2 g acc)
          (issueAt d L cF hcF ev q 6 (g.val + 1)) := by
  have hg : g.val < 4 := g.isLt
  have hb6 : 16 * g.val + 384 = 64 * (6 : Fin 8).val + 16 * g.val := by show 16 * g.val + 384 = 64 * 6 + 16 * g.val; omega
  unfold issueAt
  rw [show 16 * (g.val + 1) = 16 * g.val + 1 + 1 + 1 + 1 + 1 + 1 + 1 + 1 + 1 + 1 + 1 + 1 + 1 + 1 + 1 + 1 from by omega]
  rw [Ring.bigSep_rangeSet_head (Φ := rowOwn d L) (lo := 16 * g.val) (by omega) (by omega),
    Ring.bigSep_rangeSet_head (Φ := rowOwn d L) (lo := 16 * g.val + 1) (by omega) (by omega),
    Ring.bigSep_rangeSet_head (Φ := rowOwn d L) (lo := 16 * g.val + 1 + 1) (by omega) (by omega),
    Ring.bigSep_rangeSet_head (Φ := rowOwn d L) (lo := 16 * g.val + 1 + 1 + 1) (by omega) (by omega),
    Ring.bigSep_rangeSet_head (Φ := rowOwn d L) (lo := 16 * g.val + 1 + 1 + 1 + 1) (by omega) (by omega),
    Ring.bigSep_rangeSet_head (Φ := rowOwn d L) (lo := 16 * g.val + 1 + 1 + 1 + 1 + 1) (by omega) (by omega),
    Ring.bigSep_rangeSet_head (Φ := rowOwn d L) (lo := 16 * g.val + 1 + 1 + 1 + 1 + 1 + 1) (by omega) (by omega),
    Ring.bigSep_rangeSet_head (Φ := rowOwn d L) (lo := 16 * g.val + 1 + 1 + 1 + 1 + 1 + 1 + 1) (by omega) (by omega),
    Ring.bigSep_rangeSet_head (Φ := rowOwn d L) (lo := 16 * g.val + 1 + 1 + 1 + 1 + 1 + 1 + 1 + 1) (by omega) (by omega),
    Ring.bigSep_rangeSet_head (Φ := rowOwn d L) (lo := 16 * g.val + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1 + 1) (by omega) (by omega),
    Ring.bigSep_rangeSet_head (Φ := tok d L ev q) (lo := 16 * g.val) (by omega) (by omega),
    Ring.bigSep_rangeSet_head (Φ := tok d L ev q) (lo := 16 * g.val + 1) (by omega) (by omega),
    Ring.bigSep_rangeSet_head (Φ := tok d L ev q) (lo := 16 * g.val + 1 + 1) (by omega) (by omega),
    Ring.bigSep_rangeSet_head (Φ := tok d L ev q) (lo := 16 * g.val + 1 + 1 + 1) (by omega) (by omega),
    Ring.bigSep_rangeSet_head (Φ := tok d L ev q) (lo := 16 * g.val + 1 + 1 + 1 + 1) (by omega) (by omega),
    Ring.bigSep_rangeSet_head (Φ := tok d L ev q) (lo := 16 * g.val + 1 + 1 + 1 + 1 + 1) (by omega) (by omega),
    Ring.bigSep_rangeSet_head (Φ := tok d L ev q) (lo := 16 * g.val + 1 + 1 + 1 + 1 + 1 + 1) (by omega) (by omega),
    Ring.bigSep_rangeSet_head (Φ := tok d L ev q) (lo := 16 * g.val + 1 + 1 + 1 + 1 + 1 + 1 + 1) (by omega) (by omega),
    Ring.bigSep_rangeSet_head (Φ := tok d L ev q) (lo := 16 * g.val + 1 + 1 + 1 + 1 + 1 + 1 + 1 + 1) (by omega) (by omega),
    Ring.bigSep_rangeSet_head (Φ := tok d L ev q) (lo := 16 * g.val + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1 + 1) (by omega) (by omega)]
  rw [Ring.bigSep_rangeSet_split (Φ := tokRest d L cF hcF ev q 6) (a := 0) (b := 16 * g.val) (d := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_empty (Φ := tokRest d L cF hcF ev q 6) (lo := 16 * g.val + 1 + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (le_refl _)]
  iintro ⟨HB, Hc, ⟨HR0, HR1, HR2, HR3, HR4, HR5, HR6, HR7, HR8, HR9, HR10, HR11, HR12, HR13, HR14, HR15, HRs⟩, ⟨HT0, HT1, HT2, HT3, HT4, HT5, HT6, HT7, HT8, HT9, HT10, HT11, HT12, HT13, HT14, HT15, HTs⟩, Hrest⟩
  ihave HR0' := (rowOwn_to d L ⟨16 * g.val, _⟩ (k1_off240 g 0#32) (K1.Facts₀.k1_off240_inb g 0) rfl) $$ HR0
  icases HR0' with ⟨%f0, HR0⟩
  ihave HR1' := (rowOwn_to d L ⟨16 * g.val + 1, _⟩ (k1_off242 g 1#32) (K1.Facts₀.k1_off242_inb g 0) rfl) $$ HR1
  icases HR1' with ⟨%f1, HR1⟩
  ihave HR2' := (rowOwn_to d L ⟨16 * g.val + 1 + 1, _⟩ (k1_off244 g 2#32) (K1.Facts₀.k1_off244_inb g 0) rfl) $$ HR2
  icases HR2' with ⟨%f2, HR2⟩
  ihave HR3' := (rowOwn_to d L ⟨16 * g.val + 1 + 1 + 1, _⟩ (k1_off246 g 3#32) (K1.Facts₀.k1_off246_inb g 0) rfl) $$ HR3
  icases HR3' with ⟨%f3, HR3⟩
  ihave HR4' := (rowOwn_to d L ⟨16 * g.val + 1 + 1 + 1 + 1, _⟩ (k1_off248 g 4#32) (K1.Facts₀.k1_off248_inb g 0) rfl) $$ HR4
  icases HR4' with ⟨%f4, HR4⟩
  ihave HR5' := (rowOwn_to d L ⟨16 * g.val + 1 + 1 + 1 + 1 + 1, _⟩ (k1_off250 g 5#32) (K1.Facts₀.k1_off250_inb g 0) rfl) $$ HR5
  icases HR5' with ⟨%f5, HR5⟩
  ihave HR6' := (rowOwn_to d L ⟨16 * g.val + 1 + 1 + 1 + 1 + 1 + 1, _⟩ (k1_off252 g 6#32) (K1.Facts₀.k1_off252_inb g 0) rfl) $$ HR6
  icases HR6' with ⟨%f6, HR6⟩
  ihave HR7' := (rowOwn_to d L ⟨16 * g.val + 1 + 1 + 1 + 1 + 1 + 1 + 1, _⟩ (k1_off254 g 7#32) (K1.Facts₀.k1_off254_inb g 0) rfl) $$ HR7
  icases HR7' with ⟨%f7, HR7⟩
  ihave HR8' := (rowOwn_to d L ⟨16 * g.val + 1 + 1 + 1 + 1 + 1 + 1 + 1 + 1, _⟩ (k1_off256 g 8#32) (K1.Facts₀.k1_off256_inb g 0) rfl) $$ HR8
  icases HR8' with ⟨%f8, HR8⟩
  ihave HR9' := (rowOwn_to d L ⟨16 * g.val + 1 + 1 + 1 + 1 + 1 + 1 + 1 + 1 + 1, _⟩ (k1_off258 g 9#32) (K1.Facts₀.k1_off258_inb g 0) rfl) $$ HR9
  icases HR9' with ⟨%f9, HR9⟩
  ihave HR10' := (rowOwn_to d L ⟨16 * g.val + 1 + 1 + 1 + 1 + 1 + 1 + 1 + 1 + 1 + 1, _⟩ (k1_off260 g 10#32) (K1.Facts₀.k1_off260_inb g 0) rfl) $$ HR10
  icases HR10' with ⟨%f10, HR10⟩
  ihave HR11' := (rowOwn_to d L ⟨16 * g.val + 1 + 1 + 1 + 1 + 1 + 1 + 1 + 1 + 1 + 1 + 1, _⟩ (k1_off262 g 11#32) (K1.Facts₀.k1_off262_inb g 0) rfl) $$ HR11
  icases HR11' with ⟨%f11, HR11⟩
  ihave HR12' := (rowOwn_to d L ⟨16 * g.val + 1 + 1 + 1 + 1 + 1 + 1 + 1 + 1 + 1 + 1 + 1 + 1, _⟩ (k1_off264 g 12#32) (K1.Facts₀.k1_off264_inb g 0) rfl) $$ HR12
  icases HR12' with ⟨%f12, HR12⟩
  ihave HR13' := (rowOwn_to d L ⟨16 * g.val + 1 + 1 + 1 + 1 + 1 + 1 + 1 + 1 + 1 + 1 + 1 + 1 + 1, _⟩ (k1_off266 g 13#32) (K1.Facts₀.k1_off266_inb g 0) rfl) $$ HR13
  icases HR13' with ⟨%f13, HR13⟩
  ihave HR14' := (rowOwn_to d L ⟨16 * g.val + 1 + 1 + 1 + 1 + 1 + 1 + 1 + 1 + 1 + 1 + 1 + 1 + 1 + 1, _⟩ (k1_off268 g 14#32) (K1.Facts₀.k1_off268_inb g 0) rfl) $$ HR14
  icases HR14' with ⟨%f14, HR14⟩
  ihave HR15' := (rowOwn_to d L ⟨16 * g.val + 1 + 1 + 1 + 1 + 1 + 1 + 1 + 1 + 1 + 1 + 1 + 1 + 1 + 1 + 1, _⟩ (k1_off270 g) (K1.Facts₀.k1_off270_inb g) rfl) $$ HR15
  icases HR15' with ⟨%f15, HR15⟩
  sl_unfold [k1_t19_body]
  sl_exec (disch := first
    | omega
    | exact TileVRect.row_inb _ (hcF _)
    | exact deliver d L cF hcF ev q 6 _ _ _ rfl _ _ (word_eq d L cF 6 g.val _ _ (16 * g.val + 384) rfl hb6 _ (by decide) (by decide) _ _ rfl) _ _ rfl _ rfl)
  sl_step
  isplitl [HB]; · iexact HB
  isplitl [Hc]; · iexact Hc
  isplitl [HRs]; · iexact HRs
  isplitl [HTs]; · iexact HTs
  isplitl [Hrest]; · iexact Hrest
  isplitl [HT0]
  · iapply (rest_to d L cF hcF ev q 6 ⟨16 * g.val, _⟩ _ _ (word_eq d L cF 6 g.val (k1_off237 g) (K1.Facts₀.k1_off237_inb g) (16 * g.val + 384) rfl hb6 0 Shapes1.Facts₀.slices_S16_o0_S1 Shapes1.Facts₀.inpos_S1_p0 Shapes1.Facts₀.shapeCasts_S16_S16 _ rfl) _ rfl); iexact HT0
  isplitl [HT1]
  · iapply (rest_to d L cF hcF ev q 6 ⟨16 * g.val + 1, _⟩ _ _ (word_eq d L cF 6 g.val (k1_off237 g) (K1.Facts₀.k1_off237_inb g) (16 * g.val + 384) rfl hb6 1 Shapes1.Facts₀.slices_S16_o1_S1 Shapes1.Facts₀.inpos_S1_p0 Shapes1.Facts₀.shapeCasts_S16_S16 _ rfl) _ rfl); iexact HT1
  isplitl [HT2]
  · iapply (rest_to d L cF hcF ev q 6 ⟨16 * g.val + 1 + 1, _⟩ _ _ (word_eq d L cF 6 g.val (k1_off237 g) (K1.Facts₀.k1_off237_inb g) (16 * g.val + 384) rfl hb6 2 Shapes1.Facts₀.slices_S16_o2_S1 Shapes1.Facts₀.inpos_S1_p0 Shapes1.Facts₀.shapeCasts_S16_S16 _ rfl) _ rfl); iexact HT2
  isplitl [HT3]
  · iapply (rest_to d L cF hcF ev q 6 ⟨16 * g.val + 1 + 1 + 1, _⟩ _ _ (word_eq d L cF 6 g.val (k1_off237 g) (K1.Facts₀.k1_off237_inb g) (16 * g.val + 384) rfl hb6 3 Shapes1.Facts₀.slices_S16_o3_S1 Shapes1.Facts₀.inpos_S1_p0 Shapes1.Facts₀.shapeCasts_S16_S16 _ rfl) _ rfl); iexact HT3
  isplitl [HT4]
  · iapply (rest_to d L cF hcF ev q 6 ⟨16 * g.val + 1 + 1 + 1 + 1, _⟩ _ _ (word_eq d L cF 6 g.val (k1_off237 g) (K1.Facts₀.k1_off237_inb g) (16 * g.val + 384) rfl hb6 4 Shapes1.Facts₀.slices_S16_o4_S1 Shapes1.Facts₀.inpos_S1_p0 Shapes1.Facts₀.shapeCasts_S16_S16 _ rfl) _ rfl); iexact HT4
  isplitl [HT5]
  · iapply (rest_to d L cF hcF ev q 6 ⟨16 * g.val + 1 + 1 + 1 + 1 + 1, _⟩ _ _ (word_eq d L cF 6 g.val (k1_off237 g) (K1.Facts₀.k1_off237_inb g) (16 * g.val + 384) rfl hb6 5 Shapes1.Facts₀.slices_S16_o5_S1 Shapes1.Facts₀.inpos_S1_p0 Shapes1.Facts₀.shapeCasts_S16_S16 _ rfl) _ rfl); iexact HT5
  isplitl [HT6]
  · iapply (rest_to d L cF hcF ev q 6 ⟨16 * g.val + 1 + 1 + 1 + 1 + 1 + 1, _⟩ _ _ (word_eq d L cF 6 g.val (k1_off237 g) (K1.Facts₀.k1_off237_inb g) (16 * g.val + 384) rfl hb6 6 Shapes1.Facts₀.slices_S16_o6_S1 Shapes1.Facts₀.inpos_S1_p0 Shapes1.Facts₀.shapeCasts_S16_S16 _ rfl) _ rfl); iexact HT6
  isplitl [HT7]
  · iapply (rest_to d L cF hcF ev q 6 ⟨16 * g.val + 1 + 1 + 1 + 1 + 1 + 1 + 1, _⟩ _ _ (word_eq d L cF 6 g.val (k1_off237 g) (K1.Facts₀.k1_off237_inb g) (16 * g.val + 384) rfl hb6 7 Shapes1.Facts₀.slices_S16_o7_S1 Shapes1.Facts₀.inpos_S1_p0 Shapes1.Facts₀.shapeCasts_S16_S16 _ rfl) _ rfl); iexact HT7
  isplitl [HT8]
  · iapply (rest_to d L cF hcF ev q 6 ⟨16 * g.val + 1 + 1 + 1 + 1 + 1 + 1 + 1 + 1, _⟩ _ _ (word_eq d L cF 6 g.val (k1_off237 g) (K1.Facts₀.k1_off237_inb g) (16 * g.val + 384) rfl hb6 8 Shapes1.Facts₀.slices_S16_o8_S1 Shapes1.Facts₀.inpos_S1_p0 Shapes1.Facts₀.shapeCasts_S16_S16 _ rfl) _ rfl); iexact HT8
  isplitl [HT9]
  · iapply (rest_to d L cF hcF ev q 6 ⟨16 * g.val + 1 + 1 + 1 + 1 + 1 + 1 + 1 + 1 + 1, _⟩ _ _ (word_eq d L cF 6 g.val (k1_off237 g) (K1.Facts₀.k1_off237_inb g) (16 * g.val + 384) rfl hb6 9 Shapes1.Facts₀.slices_S16_o9_S1 Shapes1.Facts₀.inpos_S1_p0 Shapes1.Facts₀.shapeCasts_S16_S16 _ rfl) _ rfl); iexact HT9
  isplitl [HT10]
  · iapply (rest_to d L cF hcF ev q 6 ⟨16 * g.val + 1 + 1 + 1 + 1 + 1 + 1 + 1 + 1 + 1 + 1, _⟩ _ _ (word_eq d L cF 6 g.val (k1_off237 g) (K1.Facts₀.k1_off237_inb g) (16 * g.val + 384) rfl hb6 10 Shapes1.Facts₀.slices_S16_o10_S1 Shapes1.Facts₀.inpos_S1_p0 Shapes1.Facts₀.shapeCasts_S16_S16 _ rfl) _ rfl); iexact HT10
  isplitl [HT11]
  · iapply (rest_to d L cF hcF ev q 6 ⟨16 * g.val + 1 + 1 + 1 + 1 + 1 + 1 + 1 + 1 + 1 + 1 + 1, _⟩ _ _ (word_eq d L cF 6 g.val (k1_off237 g) (K1.Facts₀.k1_off237_inb g) (16 * g.val + 384) rfl hb6 11 Shapes1.Facts₀.slices_S16_o11_S1 Shapes1.Facts₀.inpos_S1_p0 Shapes1.Facts₀.shapeCasts_S16_S16 _ rfl) _ rfl); iexact HT11
  isplitl [HT12]
  · iapply (rest_to d L cF hcF ev q 6 ⟨16 * g.val + 1 + 1 + 1 + 1 + 1 + 1 + 1 + 1 + 1 + 1 + 1 + 1, _⟩ _ _ (word_eq d L cF 6 g.val (k1_off237 g) (K1.Facts₀.k1_off237_inb g) (16 * g.val + 384) rfl hb6 12 Shapes1.Facts₀.slices_S16_o12_S1 Shapes1.Facts₀.inpos_S1_p0 Shapes1.Facts₀.shapeCasts_S16_S16 _ rfl) _ rfl); iexact HT12
  isplitl [HT13]
  · iapply (rest_to d L cF hcF ev q 6 ⟨16 * g.val + 1 + 1 + 1 + 1 + 1 + 1 + 1 + 1 + 1 + 1 + 1 + 1 + 1, _⟩ _ _ (word_eq d L cF 6 g.val (k1_off237 g) (K1.Facts₀.k1_off237_inb g) (16 * g.val + 384) rfl hb6 13 Shapes1.Facts₀.slices_S16_o13_S1 Shapes1.Facts₀.inpos_S1_p0 Shapes1.Facts₀.shapeCasts_S16_S16 _ rfl) _ rfl); iexact HT13
  isplitl [HT14]
  · iapply (rest_to d L cF hcF ev q 6 ⟨16 * g.val + 1 + 1 + 1 + 1 + 1 + 1 + 1 + 1 + 1 + 1 + 1 + 1 + 1 + 1, _⟩ _ _ (word_eq d L cF 6 g.val (k1_off237 g) (K1.Facts₀.k1_off237_inb g) (16 * g.val + 384) rfl hb6 14 Shapes1.Facts₀.slices_S16_o14_S1 Shapes1.Facts₀.inpos_S1_p0 Shapes1.Facts₀.shapeCasts_S16_S16 _ rfl) _ rfl); iexact HT14
  isplitl [HT15]
  · iapply (rest_to d L cF hcF ev q 6 ⟨16 * g.val + 1 + 1 + 1 + 1 + 1 + 1 + 1 + 1 + 1 + 1 + 1 + 1 + 1 + 1 + 1, _⟩ _ _ (word_eq d L cF 6 g.val (k1_off237 g) (K1.Facts₀.k1_off237_inb g) (16 * g.val + 384) rfl hb6 15 Shapes1.Facts₀.slices_S16_o15_S1 Shapes1.Facts₀.inpos_S1_p0 Shapes1.Facts₀.shapeCasts_S16_S16 _ rfl) _ rfl); iexact HT15
  iempintro

end Cert.Proof.TileVIssue6

end
-- ==== Proof.TileVIssue7.lean ====
/-
  Chunk 7's issue trip. Trip `g` of the chunk's issue loop loads the 16 centre words of elements `16g … 16g + 15`
  of the chunk and starts, for each, the copy of the table row it names into row `16g + l` of the gathered-rows
  scratch, all on the one gather semaphore: transfers `16g … 16g + 15` of the chunk's batch. Each word is below
  the table's extent (the index scratch holds the subcore's centre words); each copy's delivery is the batch's.
-/
import proofs.«218857_g62938450756068_cont_9to1c4b_813_41_alg».proof.Proof.TileVWord

set_option maxRecDepth 100000

noncomputable section

namespace Cert.Proof.TileVIssue7

open Cert.KernelIdeal Cert.KernelIdeal.Gen Cert.Proof.KernelIdealBase Cert.Proof.TileVDefs Cert.Proof.TileVMem Cert.Proof.TileVInv
open Cert.Proof.TileVIssueLem Cert.Proof.TileVWord

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (L : grid1.Coords)
variable (cF : Buf (Elt F) (l0 d L)) (hcF : ∀ x : S512.Idx, ((cF : S512.Idx → BitVec 32) x).toNat < 1000000)
variable (ev : Buf (Elt F) (lev d L)) (q : PosShare TreeShare)

set_option maxHeartbeats 0 in
theorem issue_step7 [∀ e, Nonempty (Elt F e)] (g : Fin k1_t22_loop.trips) (acc : Unit) :
    issueAt d L cF hcF ev q 7 g.val acc
      ⊢ wp frame (wpE (defs₀ (F := F)) 𝒱₀ (thr d L) none) Set.univ
          (k1_t22_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 g acc)
          (issueAt d L cF hcF ev q 7 (g.val + 1)) := by
  have hg : g.val < 4 := g.isLt
  have hb7 : 16 * g.val + 448 = 64 * (7 : Fin 8).val + 16 * g.val := by show 16 * g.val + 448 = 64 * 7 + 16 * g.val; omega
  unfold issueAt
  rw [show 16 * (g.val + 1) = 16 * g.val + 1 + 1 + 1 + 1 + 1 + 1 + 1 + 1 + 1 + 1 + 1 + 1 + 1 + 1 + 1 + 1 from by omega]
  rw [Ring.bigSep_rangeSet_head (Φ := rowOwn d L) (lo := 16 * g.val) (by omega) (by omega),
    Ring.bigSep_rangeSet_head (Φ := rowOwn d L) (lo := 16 * g.val + 1) (by omega) (by omega),
    Ring.bigSep_rangeSet_head (Φ := rowOwn d L) (lo := 16 * g.val + 1 + 1) (by omega) (by omega),
    Ring.bigSep_rangeSet_head (Φ := rowOwn d L) (lo := 16 * g.val + 1 + 1 + 1) (by omega) (by omega),
    Ring.bigSep_rangeSet_head (Φ := rowOwn d L) (lo := 16 * g.val + 1 + 1 + 1 + 1) (by omega) (by omega),
    Ring.bigSep_rangeSet_head (Φ := rowOwn d L) (lo := 16 * g.val + 1 + 1 + 1 + 1 + 1) (by omega) (by omega),
    Ring.bigSep_rangeSet_head (Φ := rowOwn d L) (lo := 16 * g.val + 1 + 1 + 1 + 1 + 1 + 1) (by omega) (by omega),
    Ring.bigSep_rangeSet_head (Φ := rowOwn d L) (lo := 16 * g.val + 1 + 1 + 1 + 1 + 1 + 1 + 1) (by omega) (by omega),
    Ring.bigSep_rangeSet_head (Φ := rowOwn d L) (lo := 16 * g.val + 1 + 1 + 1 + 1 + 1 + 1 + 1 + 1) (by omega) (by omega),
    Ring.bigSep_rangeSet_head (Φ := rowOwn d L) (lo := 16 * g.val + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1 + 1) (by omega) (by omega),
    Ring.bigSep_rangeSet_head (Φ := tok d L ev q) (lo := 16 * g.val) (by omega) (by omega),
    Ring.bigSep_rangeSet_head (Φ := tok d L ev q) (lo := 16 * g.val + 1) (by omega) (by omega),
    Ring.bigSep_rangeSet_head (Φ := tok d L ev q) (lo := 16 * g.val + 1 + 1) (by omega) (by omega),
    Ring.bigSep_rangeSet_head (Φ := tok d L ev q) (lo := 16 * g.val + 1 + 1 + 1) (by omega) (by omega),
    Ring.bigSep_rangeSet_head (Φ := tok d L ev q) (lo := 16 * g.val + 1 + 1 + 1 + 1) (by omega) (by omega),
    Ring.bigSep_rangeSet_head (Φ := tok d L ev q) (lo := 16 * g.val + 1 + 1 + 1 + 1 + 1) (by omega) (by omega),
    Ring.bigSep_rangeSet_head (Φ := tok d L ev q) (lo := 16 * g.val + 1 + 1 + 1 + 1 + 1 + 1) (by omega) (by omega),
    Ring.bigSep_rangeSet_head (Φ := tok d L ev q) (lo := 16 * g.val + 1 + 1 + 1 + 1 + 1 + 1 + 1) (by omega) (by omega),
    Ring.bigSep_rangeSet_head (Φ := tok d L ev q) (lo := 16 * g.val + 1 + 1 + 1 + 1 + 1 + 1 + 1 + 1) (by omega) (by omega),
    Ring.bigSep_rangeSet_head (Φ := tok d L ev q) (lo := 16 * g.val + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1 + 1) (by omega) (by omega)]
  rw [Ring.bigSep_rangeSet_split (Φ := tokRest d L cF hcF ev q 7) (a := 0) (b := 16 * g.val) (d := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_empty (Φ := tokRest d L cF hcF ev q 7) (lo := 16 * g.val + 1 + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (le_refl _)]
  iintro ⟨HB, Hc, ⟨HR0, HR1, HR2, HR3, HR4, HR5, HR6, HR7, HR8, HR9, HR10, HR11, HR12, HR13, HR14, HR15, HRs⟩, ⟨HT0, HT1, HT2, HT3, HT4, HT5, HT6, HT7, HT8, HT9, HT10, HT11, HT12, HT13, HT14, HT15, HTs⟩, Hrest⟩
  ihave HR0' := (rowOwn_to d L ⟨16 * g.val, _⟩ (k1_off279 g 0#32) (K1.Facts₀.k1_off279_inb g 0) rfl) $$ HR0
  icases HR0' with ⟨%f0, HR0⟩
  ihave HR1' := (rowOwn_to d L ⟨16 * g.val + 1, _⟩ (k1_off281 g 1#32) (K1.Facts₀.k1_off281_inb g 0) rfl) $$ HR1
  icases HR1' with ⟨%f1, HR1⟩
  ihave HR2' := (rowOwn_to d L ⟨16 * g.val + 1 + 1, _⟩ (k1_off283 g 2#32) (K1.Facts₀.k1_off283_inb g 0) rfl) $$ HR2
  icases HR2' with ⟨%f2, HR2⟩
  ihave HR3' := (rowOwn_to d L ⟨16 * g.val + 1 + 1 + 1, _⟩ (k1_off285 g 3#32) (K1.Facts₀.k1_off285_inb g 0) rfl) $$ HR3
  icases HR3' with ⟨%f3, HR3⟩
  ihave HR4' := (rowOwn_to d L ⟨16 * g.val + 1 + 1 + 1 + 1, _⟩ (k1_off287 g 4#32) (K1.Facts₀.k1_off287_inb g 0) rfl) $$ HR4
  icases HR4' with ⟨%f4, HR4⟩
  ihave HR5' := (rowOwn_to d L ⟨16 * g.val + 1 + 1 + 1 + 1 + 1, _⟩ (k1_off289 g 5#32) (K1.Facts₀.k1_off289_inb g 0) rfl) $$ HR5
  icases HR5' with ⟨%f5, HR5⟩
  ihave HR6' := (rowOwn_to d L ⟨16 * g.val + 1 + 1 + 1 + 1 + 1 + 1, _⟩ (k1_off291 g 6#32) (K1.Facts₀.k1_off291_inb g 0) rfl) $$ HR6
  icases HR6' with ⟨%f6, HR6⟩
  ihave HR7' := (rowOwn_to d L ⟨16 * g.val + 1 + 1 + 1 + 1 + 1 + 1 + 1, _⟩ (k1_off293 g 7#32) (K1.Facts₀.k1_off293_inb g 0) rfl) $$ HR7
  icases HR7' with ⟨%f7, HR7⟩
  ihave HR8' := (rowOwn_to d L ⟨16 * g.val + 1 + 1 + 1 + 1 + 1 + 1 + 1 + 1, _⟩ (k1_off295 g 8#32) (K1.Facts₀.k1_off295_inb g 0) rfl) $$ HR8
  icases HR8' with ⟨%f8, HR8⟩
  ihave HR9' := (rowOwn_to d L ⟨16 * g.val + 1 + 1 + 1 + 1 + 1 + 1 + 1 + 1 + 1, _⟩ (k1_off297 g 9#32) (K1.Facts₀.k1_off297_inb g 0) rfl) $$ HR9
  icases HR9' with ⟨%f9, HR9⟩
  ihave HR10' := (rowOwn_to d L ⟨16 * g.val + 1 + 1 + 1 + 1 + 1 + 1 + 1 + 1 + 1 + 1, _⟩ (k1_off299 g 10#32) (K1.Facts₀.k1_off299_inb g 0) rfl) $$ HR10
  icases HR10' with ⟨%f10, HR10⟩
  ihave HR11' := (rowOwn_to d L ⟨16 * g.val + 1 + 1 + 1 + 1 + 1 + 1 + 1 + 1 + 1 + 1 + 1, _⟩ (k1_off301 g 11#32) (K1.Facts₀.k1_off301_inb g 0) rfl) $$ HR11
  icases HR11' with ⟨%f11, HR11⟩
  ihave HR12' := (rowOwn_to d L ⟨16 * g.val + 1 + 1 + 1 + 1 + 1 + 1 + 1 + 1 + 1 + 1 + 1 + 1, _⟩ (k1_off303 g 12#32) (K1.Facts₀.k1_off303_inb g 0) rfl) $$ HR12
  icases HR12' with ⟨%f12, HR12⟩
  ihave HR13' := (rowOwn_to d L ⟨16 * g.val + 1 + 1 + 1 + 1 + 1 + 1 + 1 + 1 + 1 + 1 + 1 + 1 + 1, _⟩ (k1_off305 g 13#32) (K1.Facts₀.k1_off305_inb g 0) rfl) $$ HR13
  icases HR13' with ⟨%f13, HR13⟩
  ihave HR14' := (rowOwn_to d L ⟨16 * g.val + 1 + 1 + 1 + 1 + 1 + 1 + 1 + 1 + 1 + 1 + 1 + 1 + 1 + 1, _⟩ (k1_off307 g 14#32) (K1.Facts₀.k1_off307_inb g 0) rfl) $$ HR14
  icases HR14' with ⟨%f14, HR14⟩
  ihave HR15' := (rowOwn_to d L ⟨16 * g.val + 1 + 1 + 1 + 1 + 1 + 1 + 1 + 1 + 1 + 1 + 1 + 1 + 1 + 1 + 1, _⟩ (k1_off309 g) (K1.Facts₀.k1_off309_inb g) rfl) $$ HR15
  icases HR15' with ⟨%f15, HR15⟩
  sl_unfold [k1_t22_body]
  sl_exec (disch := first
    | omega
    | exact TileVRect.row_inb _ (hcF _)
    | exact deliver d L cF hcF ev q 7 _ _ _ rfl _ _ (word_eq d L cF 7 g.val _ _ (16 * g.val + 448) rfl hb7 _ (by decide) (by decide) _ _ rfl) _ _ rfl _ rfl)
  sl_step
  isplitl [HB]; · iexact HB
  isplitl [Hc]; · iexact Hc
  isplitl [HRs]; · iexact HRs
  isplitl [HTs]; · iexact HTs
  isplitl [Hrest]; · iexact Hrest
  isplitl [HT0]
  · iapply (rest_to d L cF hcF ev q 7 ⟨16 * g.val, _⟩ _ _ (word_eq d L cF 7 g.val (k1_off276 g) (K1.Facts₀.k1_off276_inb g) (16 * g.val + 448) rfl hb7 0 Shapes1.Facts₀.slices_S16_o0_S1 Shapes1.Facts₀.inpos_S1_p0 Shapes1.Facts₀.shapeCasts_S16_S16 _ rfl) _ rfl); iexact HT0
  isplitl [HT1]
  · iapply (rest_to d L cF hcF ev q 7 ⟨16 * g.val + 1, _⟩ _ _ (word_eq d L cF 7 g.val (k1_off276 g) (K1.Facts₀.k1_off276_inb g) (16 * g.val + 448) rfl hb7 1 Shapes1.Facts₀.slices_S16_o1_S1 Shapes1.Facts₀.inpos_S1_p0 Shapes1.Facts₀.shapeCasts_S16_S16 _ rfl) _ rfl); iexact HT1
  isplitl [HT2]
  · iapply (rest_to d L cF hcF ev q 7 ⟨16 * g.val + 1 + 1, _⟩ _ _ (word_eq d L cF 7 g.val (k1_off276 g) (K1.Facts₀.k1_off276_inb g) (16 * g.val + 448) rfl hb7 2 Shapes1.Facts₀.slices_S16_o2_S1 Shapes1.Facts₀.inpos_S1_p0 Shapes1.Facts₀.shapeCasts_S16_S16 _ rfl) _ rfl); iexact HT2
  isplitl [HT3]
  · iapply (rest_to d L cF hcF ev q 7 ⟨16 * g.val + 1 + 1 + 1, _⟩ _ _ (word_eq d L cF 7 g.val (k1_off276 g) (K1.Facts₀.k1_off276_inb g) (16 * g.val + 448) rfl hb7 3 Shapes1.Facts₀.slices_S16_o3_S1 Shapes1.Facts₀.inpos_S1_p0 Shapes1.Facts₀.shapeCasts_S16_S16 _ rfl) _ rfl); iexact HT3
  isplitl [HT4]
  · iapply (rest_to d L cF hcF ev q 7 ⟨16 * g.val + 1 + 1 + 1 + 1, _⟩ _ _ (word_eq d L cF 7 g.val (k1_off276 g) (K1.Facts₀.k1_off276_inb g) (16 * g.val + 448) rfl hb7 4 Shapes1.Facts₀.slices_S16_o4_S1 Shapes1.Facts₀.inpos_S1_p0 Shapes1.Facts₀.shapeCasts_S16_S16 _ rfl) _ rfl); iexact HT4
  isplitl [HT5]
  · iapply (rest_to d L cF hcF ev q 7 ⟨16 * g.val + 1 + 1 + 1 + 1 + 1, _⟩ _ _ (word_eq d L cF 7 g.val (k1_off276 g) (K1.Facts₀.k1_off276_inb g) (16 * g.val + 448) rfl hb7 5 Shapes1.Facts₀.slices_S16_o5_S1 Shapes1.Facts₀.inpos_S1_p0 Shapes1.Facts₀.shapeCasts_S16_S16 _ rfl) _ rfl); iexact HT5
  isplitl [HT6]
  · iapply (rest_to d L cF hcF ev q 7 ⟨16 * g.val + 1 + 1 + 1 + 1 + 1 + 1, _⟩ _ _ (word_eq d L cF 7 g.val (k1_off276 g) (K1.Facts₀.k1_off276_inb g) (16 * g.val + 448) rfl hb7 6 Shapes1.Facts₀.slices_S16_o6_S1 Shapes1.Facts₀.inpos_S1_p0 Shapes1.Facts₀.shapeCasts_S16_S16 _ rfl) _ rfl); iexact HT6
  isplitl [HT7]
  · iapply (rest_to d L cF hcF ev q 7 ⟨16 * g.val + 1 + 1 + 1 + 1 + 1 + 1 + 1, _⟩ _ _ (word_eq d L cF 7 g.val (k1_off276 g) (K1.Facts₀.k1_off276_inb g) (16 * g.val + 448) rfl hb7 7 Shapes1.Facts₀.slices_S16_o7_S1 Shapes1.Facts₀.inpos_S1_p0 Shapes1.Facts₀.shapeCasts_S16_S16 _ rfl) _ rfl); iexact HT7
  isplitl [HT8]
  · iapply (rest_to d L cF hcF ev q 7 ⟨16 * g.val + 1 + 1 + 1 + 1 + 1 + 1 + 1 + 1, _⟩ _ _ (word_eq d L cF 7 g.val (k1_off276 g) (K1.Facts₀.k1_off276_inb g) (16 * g.val + 448) rfl hb7 8 Shapes1.Facts₀.slices_S16_o8_S1 Shapes1.Facts₀.inpos_S1_p0 Shapes1.Facts₀.shapeCasts_S16_S16 _ rfl) _ rfl); iexact HT8
  isplitl [HT9]
  · iapply (rest_to d L cF hcF ev q 7 ⟨16 * g.val + 1 + 1 + 1 + 1 + 1 + 1 + 1 + 1 + 1, _⟩ _ _ (word_eq d L cF 7 g.val (k1_off276 g) (K1.Facts₀.k1_off276_inb g) (16 * g.val + 448) rfl hb7 9 Shapes1.Facts₀.slices_S16_o9_S1 Shapes1.Facts₀.inpos_S1_p0 Shapes1.Facts₀.shapeCasts_S16_S16 _ rfl) _ rfl); iexact HT9
  isplitl [HT10]
  · iapply (rest_to d L cF hcF ev q 7 ⟨16 * g.val + 1 + 1 + 1 + 1 + 1 + 1 + 1 + 1 + 1 + 1, _⟩ _ _ (word_eq d L cF 7 g.val (k1_off276 g) (K1.Facts₀.k1_off276_inb g) (16 * g.val + 448) rfl hb7 10 Shapes1.Facts₀.slices_S16_o10_S1 Shapes1.Facts₀.inpos_S1_p0 Shapes1.Facts₀.shapeCasts_S16_S16 _ rfl) _ rfl); iexact HT10
  isplitl [HT11]
  · iapply (rest_to d L cF hcF ev q 7 ⟨16 * g.val + 1 + 1 + 1 + 1 + 1 + 1 + 1 + 1 + 1 + 1 + 1, _⟩ _ _ (word_eq d L cF 7 g.val (k1_off276 g) (K1.Facts₀.k1_off276_inb g) (16 * g.val + 448) rfl hb7 11 Shapes1.Facts₀.slices_S16_o11_S1 Shapes1.Facts₀.inpos_S1_p0 Shapes1.Facts₀.shapeCasts_S16_S16 _ rfl) _ rfl); iexact HT11
  isplitl [HT12]
  · iapply (rest_to d L cF hcF ev q 7 ⟨16 * g.val + 1 + 1 + 1 + 1 + 1 + 1 + 1 + 1 + 1 + 1 + 1 + 1, _⟩ _ _ (word_eq d L cF 7 g.val (k1_off276 g) (K1.Facts₀.k1_off276_inb g) (16 * g.val + 448) rfl hb7 12 Shapes1.Facts₀.slices_S16_o12_S1 Shapes1.Facts₀.inpos_S1_p0 Shapes1.Facts₀.shapeCasts_S16_S16 _ rfl) _ rfl); iexact HT12
  isplitl [HT13]
  · iapply (rest_to d L cF hcF ev q 7 ⟨16 * g.val + 1 + 1 + 1 + 1 + 1 + 1 + 1 + 1 + 1 + 1 + 1 + 1 + 1, _⟩ _ _ (word_eq d L cF 7 g.val (k1_off276 g) (K1.Facts₀.k1_off276_inb g) (16 * g.val + 448) rfl hb7 13 Shapes1.Facts₀.slices_S16_o13_S1 Shapes1.Facts₀.inpos_S1_p0 Shapes1.Facts₀.shapeCasts_S16_S16 _ rfl) _ rfl); iexact HT13
  isplitl [HT14]
  · iapply (rest_to d L cF hcF ev q 7 ⟨16 * g.val + 1 + 1 + 1 + 1 + 1 + 1 + 1 + 1 + 1 + 1 + 1 + 1 + 1 + 1, _⟩ _ _ (word_eq d L cF 7 g.val (k1_off276 g) (K1.Facts₀.k1_off276_inb g) (16 * g.val + 448) rfl hb7 14 Shapes1.Facts₀.slices_S16_o14_S1 Shapes1.Facts₀.inpos_S1_p0 Shapes1.Facts₀.shapeCasts_S16_S16 _ rfl) _ rfl); iexact HT14
  isplitl [HT15]
  · iapply (rest_to d L cF hcF ev q 7 ⟨16 * g.val + 1 + 1 + 1 + 1 + 1 + 1 + 1 + 1 + 1 + 1 + 1 + 1 + 1 + 1 + 1, _⟩ _ _ (word_eq d L cF 7 g.val (k1_off276 g) (K1.Facts₀.k1_off276_inb g) (16 * g.val + 448) rfl hb7 15 Shapes1.Facts₀.slices_S16_o15_S1 Shapes1.Facts₀.inpos_S1_p0 Shapes1.Facts₀.shapeCasts_S16_S16 _ rfl) _ rfl); iexact HT15
  iempintro

end Cert.Proof.TileVIssue7

end
-- ==== Proof.TileVBody.lean ====
/-
  The second SparseCore kernel's task on one subcore, with the element loop's invariant in place: before trip e
  of chunk j the partial-products scratch already agrees with the result below entry 16(64j + e). At e = 0 that
  is entry 1024j, where the previous chunk stopped; at e = 64 it is entry 1024(j + 1).
-/
import proofs.«218857_g62938450756068_cont_9to1c4b_813_41_alg».proof.Proof.TileV
import proofs.«218857_g62938450756068_cont_9to1c4b_813_41_alg».proof.Proof.TileVElemInv
import proofs.«218857_g62938450756068_cont_9to1c4b_813_41_alg».proof.Proof.KernelIdealStmt
import proofs.«218857_g62938450756068_cont_9to1c4b_813_41_alg».proof.Proof.TileVElem0
import proofs.«218857_g62938450756068_cont_9to1c4b_813_41_alg».proof.Proof.TileVElem1
import proofs.«218857_g62938450756068_cont_9to1c4b_813_41_alg».proof.Proof.TileVElem2
import proofs.«218857_g62938450756068_cont_9to1c4b_813_41_alg».proof.Proof.TileVElem3
import proofs.«218857_g62938450756068_cont_9to1c4b_813_41_alg».proof.Proof.TileVElem4
import proofs.«218857_g62938450756068_cont_9to1c4b_813_41_alg».proof.Proof.TileVElem5
import proofs.«218857_g62938450756068_cont_9to1c4b_813_41_alg».proof.Proof.TileVElem6
import proofs.«218857_g62938450756068_cont_9to1c4b_813_41_alg».proof.Proof.TileVElem7
import proofs.«218857_g62938450756068_cont_9to1c4b_813_41_alg».proof.Proof.TileVIssue0
import proofs.«218857_g62938450756068_cont_9to1c4b_813_41_alg».proof.Proof.TileVIssue1
import proofs.«218857_g62938450756068_cont_9to1c4b_813_41_alg».proof.Proof.TileVIssue2
import proofs.«218857_g62938450756068_cont_9to1c4b_813_41_alg».proof.Proof.TileVIssue3
import proofs.«218857_g62938450756068_cont_9to1c4b_813_41_alg».proof.Proof.TileVIssue4
import proofs.«218857_g62938450756068_cont_9to1c4b_813_41_alg».proof.Proof.TileVIssue5
import proofs.«218857_g62938450756068_cont_9to1c4b_813_41_alg».proof.Proof.TileVIssue6
import proofs.«218857_g62938450756068_cont_9to1c4b_813_41_alg».proof.Proof.TileVIssue7

noncomputable section

namespace Cert.Proof.TileVBody

open Cert.KernelIdeal Cert.KernelIdeal.Gen Cert.Proof.KernelIdealBase Cert.Proof.KernelIdealBodies
open Cert.Proof.TileVDefs Cert.Proof.TileVMem Cert.Proof.TileVInv Cert.Proof.TileVDrain

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid1.Coords)

/-- The element invariant at trip 0 of chunk j, from the three scratch buffers. -/
theorem ea_in (U : Buf (Elt F) (urowsLoc d)) (j : Fin 8) (cF : Buf (Elt F) (l0 d L)) (Uj : Buf (Elt F) (l2 d L)) (pf : Buf (Elt F) (l3 d L))
    (hc : TileV.CenOK m d L cF) (hu : TileV.UjOK d L U j Uj) (hp : TileV.okBelow m d L U (1024 * j.val) pf) :
    (iprop(((s1).view.loc (thr d L) ↦{fullShare} gath d L cF (m (evLoc d)) j) ∗ ((s2).view.loc (thr d L) ↦{fullShare} Uj)
        ∗ ((s3).view.loc (thr d L) ↦{fullShare} pf)) : sProp 𝕄) ⊢ TileVElemInv.elemAt m d L U j cF (m (evLoc d)) Uj 0 () := by
  unfold TileVElemInv.elemAt
  iintro ⟨H1, H2, H3⟩
  isplitl [H1]; · iexact H1
  isplitl [H2]; · iexact H2
  iexists pf; isplitr
  · ipureintro; intro x hx; exact hp x (by omega)
  · iexact H3

/-- After trip 63 of chunk j the scratch agrees with the result below entry 1024(j + 1). -/
theorem ea_out (U : Buf (Elt F) (urowsLoc d)) (j : Fin 8) (cF : Buf (Elt F) (l0 d L)) (Uj : Buf (Elt F) (l2 d L)) (acc : Unit) :
    TileVElemInv.elemAt m d L U j cF (m (evLoc d)) Uj 64 acc
      ⊢ (iprop(∃ pf : Buf (Elt F) (l3 d L), ⌜TileV.okBelow m d L U (1024 * (j.val + 1)) pf⌝
          ∗ ((s1).view.loc (thr d L) ↦{fullShare} gath d L cF (m (evLoc d)) j) ∗ ((s2).view.loc (thr d L) ↦{fullShare} Uj)
          ∗ ((s3).view.loc (thr d L) ↦{fullShare} pf)) : sProp 𝕄) := by
  unfold TileVElemInv.elemAt
  iintro ⟨H1, H2, %pf, %hp, H3⟩
  iexists pf; isplitr
  · ipureintro; intro x hx; exact hp x (by omega)
  isplitl [H1]; · iexact H1
  isplitl [H2] <;> iassumption

/-- THE SECOND KERNEL'S TASK ON ONE SUBCORE: from what the call hands the subcore to the same with its slice of the
    partial products at its value, for any context rows and any prior contents of the result. -/
theorem tile_body_v [∀ e, Nonempty (Elt F e)]
    (hF : (K (F := F)).Facts) (hpre : TileVDefs.PreOKV m)
    (U : Buf (Elt F) (urowsLoc d)) (f0 : Buf (Elt F) (pposLoc d))
    (O : CellTallies nD τ sig (HIx 2)) (W : Waits sig (HIx 2)) (hO : ∀ g, O g none = 0) :
    iprop(levAts (K (F := F)).L (K (F := F)).lev ∗ emp ∗ TileVDefs.goV m d L U f0
        ∗ scopedBufs (thr d L) ∗ scopedSems0 (thr d L) ∗ owes (thr d L) O W)
      ⊢ wp frame (wpE (defs₀ (F := F)) 𝒱₀ (thr d L) none) Set.univ (bodyV (F := F) L)
          fun _ => iprop(TileVDefs.tdV m d L U ∗ scopedBufs (thr d L) ∗ scopedSems0 (thr d L)
            ∗ ∃ W', ⌜∀ p ∈ W', p ∈ W ∨ p.2 = none⌝ ∗ owes (thr d L) O W') :=
  TileV.tile_body_v_of_steps m d L U (fun j cF ev Uj => TileVElemInv.elemAt m d L U j cF ev Uj)
    (fun j cF Uj pf hc hu hp => ea_in m d L U j cF Uj pf hc hu hp)
    (fun j cF Uj acc => ea_out m d L U j cF Uj acc)
    (fun cF hcF ev q g acc => TileVIssue0.issue_step0 d L cF hcF ev q g acc)
    (fun cF hcF ev q v2 c0 g acc => TileVIssue1.issue_step1 d L cF hcF ev q v2 c0 g acc)
    (fun cF hcF ev q v2 c0 g acc => TileVIssue2.issue_step2 d L cF hcF ev q v2 c0 g acc)
    (fun cF hcF ev q v2 g acc => TileVIssue3.issue_step3 d L cF hcF ev q v2 g acc)
    (fun cF hcF ev q v2 g acc => TileVIssue4.issue_step4 d L cF hcF ev q v2 g acc)
    (fun cF hcF ev q v2 g acc => TileVIssue5.issue_step5 d L cF hcF ev q v2 g acc)
    (fun cF hcF ev q v2 g acc => TileVIssue6.issue_step6 d L cF hcF ev q v2 g acc)
    (fun cF hcF ev q g acc => TileVIssue7.issue_step7 d L cF hcF ev q g acc)
    (fun cF Uj hc hu e acc => TileVElem0.elem_step0 m d L U cF Uj hc hu e acc)
    (fun cF Uj hc hu v2 c0 e acc => TileVElem1.elem_step1 m d L U cF Uj hc hu v2 c0 e acc)
    (fun cF Uj hc hu v2 c0 e acc => TileVElem2.elem_step2 m d L U cF Uj hc hu v2 c0 e acc)
    (fun cF Uj hc hu v2 e acc => TileVElem3.elem_step3 m d L U cF Uj hc hu v2 e acc)
    (fun cF Uj hc hu v2 e acc => TileVElem4.elem_step4 m d L U cF Uj hc hu v2 e acc)
    (fun cF Uj hc hu v2 e acc => TileVElem5.elem_step5 m d L U cF Uj hc hu v2 e acc)
    (fun cF Uj hc hu e acc => TileVElem6.elem_step6 m d L U cF Uj hc hu e acc)
    (fun cF Uj hc hu e acc => TileVElem7.elem_step7 m d L U cF Uj hc hu e acc)
    hF hpre f0 O W hO

/-- The statement the launch theorem's obligation for the second kernel asks for. -/
theorem bodyV [∀ e, Nonempty (Elt F e)] (hpre : TileVDefs.PreOKV m) : KernelIdealStmt.BodyV m := fun d L O W hO =>
  tile_body_v m d L Cert.Proof.KernelIdealBase.facts hpre (TileU.urowsF m d) (m (pposLoc d)) O W hO

end Cert.Proof.TileVBody

end
-- ==== Proof.KernelIdealFinal.lean ====
/-
  The two kernels' tasks, as the propositions the claim was reduced to: the first kernel's from its proof at a
  symbolic subcore with the flattened negatives at what the host's reshape leaves; the second kernel's from its
  proof at a symbolic subcore with the context rows at what the first kernel left.
-/
import proofs.«218857_g62938450756068_cont_9to1c4b_813_41_alg».proof.Proof.KernelIdealStmt
import proofs.«218857_g62938450756068_cont_9to1c4b_813_41_alg».proof.Proof.KernelIdealFlat
import proofs.«218857_g62938450756068_cont_9to1c4b_813_41_alg».proof.Proof.TileUBody
import proofs.«218857_g62938450756068_cont_9to1c4b_813_41_alg».proof.Proof.TileVBody

noncomputable section

namespace Cert.Proof.KernelIdealFinal

open Cert.KernelIdeal Cert.KernelIdeal.Gen Cert.Proof.KernelIdealBase Cert.Proof.KernelIdealPay

open Idealize.ShloMosaic Idealize.SL.Sem

variable {F : FTy → Type} [FloatOps F]

variable (m : (ℓ : Loc nD τ sig) → Buf (Elt F) ℓ)

theorem bodyU (hpre : TileU.PreOKU m) : KernelIdealStmt.BodyU m :=
  fun d L O W hO => TileU.tile_body_u m d L facts hpre (negFlatF m d) (KernelIdealFlat.isFlat_negFlatF m d) O W hO (m (pnegLoc d)) (m (urowsLoc d))

theorem bodyV [∀ e, Nonempty (Elt F e)] (hpre : TileVDefs.PreOKV m) : KernelIdealStmt.BodyV m :=
  TileVBody.bodyV m hpre

end Cert.Proof.KernelIdealFinal

end
-- ==== Proof.KernelFlat.lean ====
/-
  The host's reshape of the negatives [16384, 5] → [81920] is row-major: entry `5b + k` of the flattened array is
  word `(b, k)`.
-/
import proofs.«218857_g62938450756068_cont_9to1c4b_813_41_alg».proof.Proof.KernelPay
import proofs.«218857_g62938450756068_cont_9to1c4b_813_41_alg».proof.Proof.Reshapes

noncomputable section

namespace Cert.Proof.KernelFlat

open Cert.Kernel Cert.Kernel.Gen Cert.Proof.KernelBase Cert.Proof.KernelPay
open Idealize.ShloMosaic Idealize.ShloMosaic.ValueIdx
open Idealize.SL.Sem

variable {F : FTy → Type}

variable (m : (ℓ : Loc nD τ sig) → Buf (Elt F) ℓ)

theorem isFlat_negFlatF (d : Dev nD) : KTileU.IsFlat m d (negFlatF m d) := by
  intro b k
  have hb := b.isLt
  have hk := k.isLt
  have h := Cert.Reshapes.shapeCast_rows_to_flat (a := 16384) (b := 5) (n := 81920)
    (m (negLoc d) : S16384x5.Idx → BitVec 32) Shapes1.Facts₀.shapeCasts_S16384x5_S81920 b k (by omega)
  have e : (⟨5 * b.val + k.val, by omega⟩ : Fin 81920) = ⟨b.val * 5 + k.val, by omega⟩ :=
    Fin.ext (show 5 * b.val + k.val = b.val * 5 + k.val by omega)
  show (negFlatF m d : S81920.Idx → BitVec 32) (ix1 ⟨5 * b.val + k.val, _⟩) = _
  rw [e]
  exact h

end Cert.Proof.KernelFlat

end
-- ==== Proof.KTileUScratch.lean ====
/-
  A vector subcore's own scratch: the five buffers and the twelve DMA semaphores the first kernel uses, taken out
  of everything the subcore owns (and put back by the same equations).
-/
import proofs.«218857_g62938450756068_cont_9to1c4b_813_41_alg».proof.Proof.KTileUDefs

noncomputable section

namespace Cert.Proof.KTileU

open Cert.Kernel Cert.Kernel.Gen Cert.Proof.KernelBase

open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-- The kernel's own semaphore and the eleven of its scoped regions. -/
def semsU : Finset (DmaSem sig) :=
  {cc0_scratch5.sem, cc0_scoped0.sem, cc0_scoped1.sem, cc0_scoped2.sem, cc0_scoped3.sem, cc0_scoped4.sem, cc0_scoped5.sem,
    cc0_scoped6.sem, cc0_scoped7.sem, cc0_scoped8.sem, cc0_scoped9.sem, cc0_scoped10.sem}

/-- A subcore's cell of a DMA semaphore. -/
def cellOf (thr : Thread nD τ) : DmaSem sig ↪ GSem nD τ sig :=
  ⟨fun s => (thr, SemLoc.dma s), fun a b h => by
    have h2 : (SemLoc.dma a : SemLoc sig) = SemLoc.dma b := congrArg Prod.snd h
    injection h2⟩

theorem semsU_scoped : ∀ s ∈ semsU, sig.isScopedDmaSem .scVector s = true := by decide

theorem semsU_sub (d : Dev nD) (c : Fin τ.nSC) (i : Fin τ.nSub) : semsU.map (cellOf (V d c i)) ⊆ ownCells (V d c i) := by
  intro g hg
  obtain ⟨s, hs, rfl⟩ := Finset.mem_map.mp hg
  exact mem_ownCells.mpr ⟨rfl, semsU_scoped s hs⟩

theorem bigSep_semsU (Φ : DmaSem sig → sProp 𝕄) :
    bigSep semsU Φ = iprop(Φ cc0_scratch5.sem ∗ Φ cc0_scoped0.sem ∗ Φ cc0_scoped1.sem ∗ Φ cc0_scoped2.sem ∗ Φ cc0_scoped3.sem ∗ Φ cc0_scoped4.sem
      ∗ Φ cc0_scoped5.sem ∗ Φ cc0_scoped6.sem ∗ Φ cc0_scoped7.sem ∗ Φ cc0_scoped8.sem ∗ Φ cc0_scoped9.sem ∗ Φ cc0_scoped10.sem) := by
  unfold semsU
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The subcore's semaphores at zero: the twelve, and the rest. -/
theorem ownSems0_V (d : Dev nD) (c : Fin τ.nSC) (i : Fin τ.nSub) :
    (ownSems0 (V d c i) : sProp 𝕄)
      = iprop(bigSep semsU (fun s => semVal ((V d c i, SemLoc.dma s) : GSem nD τ sig) 0)
          ∗ bigSep (ownCells (V d c i) \ semsU.map (cellOf (V d c i))) fun g => semVal g 0) := by
  unfold SparseCore.Cfg.ownSems0
  rw [SparseCore.bigSep_sdiff_split' (semsU_sub d c i), BI.bigSep_map]
  rfl

/-- The five scratch buffers. -/
def bufsU : Finset (Ref sig .scVector) := {cc0_scratch0, cc0_scratch1, cc0_scratch2, cc0_scratch3, cc0_scratch4}

def refOf (c : Fin τ.nSC) (i : Fin τ.nSub) : Ref sig .scVector ↪ DevRef τ sig :=
  ⟨(Proc.scVector c i).devRef, Proc.devRef_injective _⟩

theorem bufsU_sub (c : Fin τ.nSC) (i : Fin τ.nSub) : bufsU.map (refOf c i) ⊆ ownRefs (τ := τ) (sig := sig) (.scVector c i) := by
  intro b hb
  obtain ⟨r, hr, rfl⟩ := Finset.mem_map.mp hb
  have : ∀ r ∈ bufsU, ((Proc.scVector c i).devRef r).owner = .proc (Proc.scVector c i) := by
    intro r hr
    simp only [bufsU, Finset.mem_insert, Finset.mem_singleton] at hr
    rcases hr with rfl | rfl | rfl | rfl | rfl <;> rfl
  exact SparseCore.Cfg.mem_ownRefs_of_owner (this r hr)

theorem bigSep_bufsU (Φ : Ref sig .scVector → sProp 𝕄) :
    bigSep bufsU Φ = iprop(Φ cc0_scratch0 ∗ Φ cc0_scratch1 ∗ Φ cc0_scratch2 ∗ Φ cc0_scratch3 ∗ Φ cc0_scratch4) := by
  unfold bufsU
  rw [SparseCore.bigSep_insert' (by decide), SparseCore.bigSep_insert' (by decide), SparseCore.bigSep_insert' (by decide),
    SparseCore.bigSep_insert' (by decide), bigSep_singleton]

/-- The subcore's buffers: the five scratch buffers at some contents, and the rest. -/
theorem ownBufs_V (d : Dev nD) (c : Fin τ.nSC) (i : Fin τ.nSub) :
    (ownBufs (V d c i) : sProp 𝕄)
      = iprop(bigSep bufsU (fun r => iprop(∃ f, (V d c i).loc r ↦{fullShare} f))
          ∗ bigSep (ownRefs (τ := τ) (sig := sig) (.scVector c i) \ bufsU.map (refOf c i)) fun b => iprop(∃ f, ((d, b) : Loc nD τ sig) ↦{fullShare} f)) := by
  unfold SparseCore.Cfg.ownBufs
  rw [SparseCore.bigSep_sdiff_split' (bufsU_sub c i), BI.bigSep_map]
  rfl

end Cert.Proof.KTileU

end
-- ==== Proof.KTileUBatch.lean ====
/-
  One chunk's row copies on the kernel's one DMA semaphore, as a counted batch of 384 transfers.

  Transfer t = 6 e + q of a chunk (e < 64 the element, q < 6): q = 0 copies the table row named by the chunk's
  e-th context word into row e of the 64-row staging buffer; q = k + 1 copies the row named by the chunk's
  (5 e + k)-th negative word into row 5 e + k of the 320-row buffer. Rows are issued in increasing order in
  both buffers, so before transfer t the rows not yet issued are the rows from ceil(t / 6) on in the first
  buffer and from 5 (t / 6) + (t mod 6 - 1) on in the second. Each transfer reads the table under its own
  read share (the t-th half of the subcore's share), lends the one row and keeps the rest of that share aside.
-/
import proofs.«218857_g62938450756068_cont_9to1c4b_813_41_alg».proof.Proof.KTileUScratch
import Idealize.ShloMosaic.Lib.Ring

noncomputable section

namespace Cert.Proof.KTileU

open Cert.Kernel Cert.Kernel.Gen Cert.Proof.KernelBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## Rows as memrefs -/

theorem inbU (e : Fin 64) : ∀ a, (![e.val, 0] : Fin 2 → Nat) a + S1x64.size a ≤ S64x64.size a := by
  have := e.isLt; intro a; fin_cases a
  · show e.val + 1 ≤ 64; omega
  · show 0 + 64 ≤ 64; omega
theorem inbN (r : Fin 320) : ∀ a, (![r.val, 0] : Fin 2 → Nat) a + S1x64.size a ≤ S320x64.size a := by
  have := r.isLt; intro a; fin_cases a
  · show r.val + 1 ≤ 320; omega
  · show 0 + 64 ≤ 64; omega
theorem inbT (r : Fin 1000000) : ∀ a, (![r.val, 0] : Fin 2 → Nat) a + S1x64.size a ≤ S1000000x64.size a := by
  have := r.isLt; intro a; fin_cases a
  · show r.val + 1 ≤ 1000000; omega
  · show 0 + 64 ≤ 64; omega

/-- Row e of the 64-row staging buffer, row r of the 320-row buffer, row r of the table. -/
def uRow (e : Fin 64) : Memref sig .scVector .vmem S64 .f32 :=
  ((Memref.whole cc0_scratch2 : Memref sig .scVector .vmem S64x64 .f32).slice (Rect.unit (s := S64x64) ![e.val, 0] S1x64.size (inbU e)) (fun _ => rfl)).squeeze S64 squeezes_S1x64_S64
def nRow (r : Fin 320) : Memref sig .scVector .vmem S64 .f32 :=
  ((Memref.whole cc0_scratch3 : Memref sig .scVector .vmem S320x64 .f32).slice (Rect.unit (s := S320x64) ![r.val, 0] S1x64.size (inbN r)) (fun _ => rfl)).squeeze S64 squeezes_S1x64_S64
def tRow (r : Fin 1000000) : Memref sig .scVector .hbm S64 .f32 :=
  ((Memref.whole main_arg4_scv : Memref sig .scVector .hbm S1000000x64 .f32).slice (Rect.unit (s := S1000000x64) ![r.val, 0] S1x64.size (inbT r)) (fun _ => rfl)).squeeze S64 squeezes_S1x64_S64

abbrev uRowSet (e : Fin 64) : Finset S64x64.Idx := (Rect.unit (s := S64x64) ![e.val, 0] S1x64.size (inbU e)).set
abbrev nRowSet (r : Fin 320) : Finset S320x64.Idx := (Rect.unit (s := S320x64) ![r.val, 0] S1x64.size (inbN r)).set
abbrev tRowSet (r : Fin 1000000) : Finset S1000000x64.Idx := (Rect.unit (s := S1000000x64) ![r.val, 0] S1x64.size (inbT r)).set

theorem set_uRow (e : Fin 64) : (uRow e).view.set = uRowSet e := by
  unfold uRow; exact (View.set_reshape _ _).trans (View.set_slice_whole _ _)
theorem set_nRow (r : Fin 320) : (nRow r).view.set = nRowSet r := by
  unfold nRow; exact (View.set_reshape _ _).trans (View.set_slice_whole _ _)
theorem set_tRow (r : Fin 1000000) : (tRow r).view.set = tRowSet r := by
  unfold tRow; exact (View.set_reshape _ _).trans (View.set_slice_whole _ _)

theorem mem_uRowSet (e : Fin 64) (y : S64x64.Idx) : y ∈ uRowSet e ↔ (y 0).val = e.val := by
  rw [Rect.mem_set_unit]
  have h1 : (y 1).val < 64 := (y 1).isLt
  constructor
  · intro H; have a0 : e.val ≤ (y 0).val ∧ (y 0).val < e.val + 1 := H 0; omega
  · intro H a; fin_cases a
    · show e.val ≤ (y 0).val ∧ (y 0).val < e.val + 1; omega
    · show 0 ≤ (y 1).val ∧ (y 1).val < 0 + 64; omega
theorem mem_nRowSet (r : Fin 320) (y : S320x64.Idx) : y ∈ nRowSet r ↔ (y 0).val = r.val := by
  rw [Rect.mem_set_unit]
  have h1 : (y 1).val < 64 := (y 1).isLt
  constructor
  · intro H; have a0 : r.val ≤ (y 0).val ∧ (y 0).val < r.val + 1 := H 0; omega
  · intro H a; fin_cases a
    · show r.val ≤ (y 0).val ∧ (y 0).val < r.val + 1; omega
    · show 0 ≤ (y 1).val ∧ (y 1).val < 0 + 64; omega

/-- The rows from a on. -/
def uFrom (a : ℕ) : Finset S64x64.Idx := Finset.univ.filter fun y => a ≤ (y 0).val
def nFrom (a : ℕ) : Finset S320x64.Idx := Finset.univ.filter fun y => a ≤ (y 0).val

theorem uRowSet_sub (e : Fin 64) : uRowSet e ⊆ uFrom e.val := by
  intro y hy; rw [mem_uRowSet] at hy; simp [uFrom]; omega
theorem uFrom_sdiff (e : Fin 64) : uFrom e.val \ uRowSet e = uFrom (e.val + 1) := by
  ext y; simp only [Finset.mem_sdiff, mem_uRowSet, uFrom, Finset.mem_filter, Finset.mem_univ, true_and]; omega
theorem nRowSet_sub (r : Fin 320) : nRowSet r ⊆ nFrom r.val := by
  intro y hy; rw [mem_nRowSet] at hy; simp [nFrom]; omega
theorem nFrom_sdiff (r : Fin 320) : nFrom r.val \ nRowSet r = nFrom (r.val + 1) := by
  ext y; simp only [Finset.mem_sdiff, mem_nRowSet, nFrom, Finset.mem_filter, Finset.mem_univ, true_and]; omega
theorem uFrom_zero : uFrom 0 = Finset.univ := by ext y; simp [uFrom]
theorem nFrom_zero : nFrom 0 = Finset.univ := by ext y; simp [nFrom]

/-! ## The chunk's words, the deliveries, the state between two issues -/

section Chunk

variable (m : (ℓ : Loc nD τ sig) → Buf (Elt F) ℓ) (d : Dev nD) (L : grid0.Coords)
variable (xs : S512.Idx → BitVec 32) (ns : S2560.Idx → BitVec 32) (c : Fin 8)
variable (fu : Buf (Elt F) ((V d (cV L) (jV L)).loc cc0_scratch2)) (fn : Buf (Elt F) ((V d (cV L) (jV L)).loc cc0_scratch3))

/-- The table row the chunk's e-th context word names; the row its r-th negative word names. -/
def xrow (e : ℕ) : Fin 1000000 :=
  ⟨(if h : 64 * c.val + e < 512 then (xs (ix1 ⟨64 * c.val + e, h⟩)).toNat else 0) % 1000000, Nat.mod_lt _ (by decide)⟩
def nrow (r : ℕ) : Fin 1000000 :=
  ⟨(if h : 320 * c.val + r < 2560 then (ns (ix1 ⟨320 * c.val + r, h⟩)).toNat else 0) % 1000000, Nat.mod_lt _ (by decide)⟩

/-- The subcore's read share of the table. -/
abbrev qw : PosShare TreeShare := Transfers.shareTok fullShare 32 (wL L)

abbrev ℓE : Loc nD τ sig := euLoc d

/-- Row e of the staging buffer landed: the table row written over it whole. -/
def landU (e : Fin 64) : Buf (Elt F) ((V d (cV L) (jV L)).loc cc0_scratch2) :=
  (uRow e).view.write (Elt F) fu (ReadAs.same.apply ((tRow (xrow xs c e.val)).view.read (Elt F) (m (euLoc d)))) Finset.univ
def landN (r : Fin 320) : Buf (Elt F) ((V d (cV L) (jV L)).loc cc0_scratch3) :=
  (nRow r).view.write (Elt F) fn (ReadAs.same.apply ((tRow (nrow ns c r.val)).view.read (Elt F) (m (euLoc d)))) Finset.univ

/-- The number of the 320-buffer row transfer t writes (t mod 6 ≠ 0), and of rows of it issued before t. -/
def nIdx (t : ℕ) : ℕ := 5 * (t / 6) + (t % 6 - 1)
/-- The rows of the 64-buffer issued before t. -/
def uIdx (t : ℕ) : ℕ := (t + 5) / 6

theorem nIdx_lt {t : ℕ} (ht : t < 384) : nIdx t < 320 := by unfold nIdx; omega
theorem uDiv_lt {t : ℕ} (ht : t < 384) : t / 6 < 64 := by omega

/-- What transfer t delivers: its destination row landed, its source row back under the transfer's share. -/
def DU (t : Fin 384) : sProp 𝕄 :=
  if t.val % 6 = 0 then
    iprop(((V d (cV L) (jV L)).loc cc0_scratch2 ↦[uRowSet ⟨t.val / 6, uDiv_lt t.isLt⟩]{fullShare} landU m d L xs c fu ⟨t.val / 6, uDiv_lt t.isLt⟩)
      ∗ (euLoc d ↦[tRowSet (xrow xs c (t.val / 6))]{Transfers.shareTokN (qw L) t.val} m (euLoc d)))
  else
    iprop(((V d (cV L) (jV L)).loc cc0_scratch3 ↦[nRowSet ⟨nIdx t.val, nIdx_lt t.isLt⟩]{fullShare} landN m d L ns c fn ⟨nIdx t.val, nIdx_lt t.isLt⟩)
      ∗ (euLoc d ↦[tRowSet (nrow ns c (nIdx t.val))]{Transfers.shareTokN (qw L) t.val} m (euLoc d)))

instance DU_storable (t : Fin 384) : BI.Storable (upEmb : UEmb _ 𝕄) (DU m d L xs ns c fu fn t) := by
  unfold DU; split <;> infer_instance

/-- The source row transfer t reads. -/
def srcRow (t : ℕ) : Fin 1000000 := if t % 6 = 0 then xrow xs c (t / 6) else nrow ns c (nIdx t)

/-- The credit of one row on the semaphore. -/
abbrev NR : ℕ := (uRow 0).view.amount (SemLoc.dma (sig := sig) cc0_scratch5.sem)

/-- The chunk's batch with t issued, u units consumed. -/
abbrev batchU (t u : ℕ) : sProp 𝕄 :=
  Transfers.Batch (countersEmb (U := UU)) (V d (cV L) (jV L)) (.dma cc0_scratch5.sem) (none : HIx 2) NR (DU m d L xs ns c fu fn) t u

/-- The rest of transfer t's read share: the table but the row it lent. -/
def restTok (t : ℕ) : sProp 𝕄 :=
  euLoc d ↦[Finset.univ \ tRowSet (srcRow xs ns c t)]{Transfers.shareTokN (qw L) t} m (euLoc d)

/-- Between two issues: t issued; the rows not yet issued in hand at the buffers' contents; the table under what is
    left of the share after t tokens, and the rests of the t tokens issued. -/
def issueSt (t : ℕ) : sProp 𝕄 :=
  iprop(batchU m d L xs ns c fu fn t 0
    ∗ ((V d (cV L) (jV L)).loc cc0_scratch2 ↦[uFrom (uIdx t)]{fullShare} fu)
    ∗ ((V d (cV L) (jV L)).loc cc0_scratch3 ↦[nFrom (nIdx t)]{fullShare} fn)
    ∗ (euLoc d ↦{Transfers.shareDrop (qw L) t} m (euLoc d))
    ∗ bigSep (Finset.range t) (restTok m d L xs ns c))

end Chunk

end Cert.Proof.KTileU

end
-- ==== Proof.KTileUIssue.lean ====
/-
  One issue of the chunk's batch: the next row copy, from the state before it to the state after it.
-/
import proofs.«218857_g62938450756068_cont_9to1c4b_813_41_alg».proof.Proof.KTileUBatch

noncomputable section

namespace Cert.Proof.KTileU

open Cert.Kernel Cert.Kernel.Gen Cert.Proof.KernelBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

section Chunk

variable (m : (ℓ : Loc nD τ sig) → Buf (Elt F) ℓ) (d : Dev nD) (L : grid0.Coords)
variable (xs : S512.Idx → BitVec 32) (ns : S2560.Idx → BitVec 32) (c : Fin 8)
variable (fu : Buf (Elt F) ((V d (cV L) (jV L)).loc cc0_scratch2)) (fn : Buf (Elt F) ((V d (cV L) (jV L)).loc cc0_scratch3))

/-- A word below the table's extent names the row the chunk's table of rows says. -/
theorem soff_u (v : BitVec 32) (e : ℕ) (he : 64 * c.val + e < 512) (hv : v = xs (ix1 ⟨64 * c.val + e, he⟩)) (hlt : v.toNat < 1000000) :
    (![v.toNat, 0] : Fin 2 → ℕ) = ![(xrow xs c e).val, 0] := by
  unfold xrow; simp only [he, ↓reduceDIte, ← hv, Nat.mod_eq_of_lt hlt]
theorem soff_n (v : BitVec 32) (r : ℕ) (hr : 320 * c.val + r < 2560) (hv : v = ns (ix1 ⟨320 * c.val + r, hr⟩)) (hlt : v.toNat < 1000000) :
    (![v.toNat, 0] : Fin 2 → ℕ) = ![(nrow ns c r).val, 0] := by
  unfold nrow; simp only [hr, ↓reduceDIte, ← hv, Nat.mod_eq_of_lt hlt]

/-- The side condition of a row copy out of the table. -/
theorem chk_of_lt (v : BitVec 32) (hlt : v.toNat < 1000000) : ∀ a, (![v.toNat, 0] : Fin 2 → ℕ) a + S1x64.size a ≤ S1000000x64.size a := by
  intro a; fin_cases a
  · show v.toNat + 1 ≤ 1000000; omega
  · show 0 + 64 ≤ 64; omega

/-- A context row's copy (transfer t, t mod 6 = 0): row t / 6 of the staging buffer taken off the rows in hand, the
    table's row under the t-th half of the share, the batch's next transfer issued. -/
theorem issue_u {α : Type} (t t' : ℕ) (ht' : t' = t + 1) (ht : t < 384) (h6 : t % 6 = 0)
    (off : Fin 2 → ℕ) (inb : ∀ a, off a + S1x64.size a ≤ S64x64.size a) (hoff : off = ![t / 6, 0])
    (soff : Fin 2 → ℕ) (sinb : ∀ a, soff a + S1x64.size a ≤ S1000000x64.size a) (hsoff : soff = ![(xrow xs c (t / 6)).val, 0])
    (hs : _) (hd : _) (hty : _)
    (k : PUnit → Prog (TpuEff nD τ sig (Elt F) Λ₀ (.scVector (cV L) (jV L))) α) (Q : α → sProp 𝕄) :
    issueSt m d L xs ns c fu fn t
      ⊢ iprop((issueSt m d L xs ns c fu fn t' -∗ wp frame (wpE (defs₀ (F := F)) 𝒱₀ (V d (cV L) (jV L)) none) Set.univ (k ⟨⟩) Q)
        -∗ wp frame (wpE (defs₀ (F := F)) 𝒱₀ (V d (cV L) (jV L)) none) Set.univ
          (.op (.enqueueDma
              (((Memref.whole main_arg4_scv : Memref sig .scVector .hbm S1000000x64 .f32).slice (Rect.unit (s := S1000000x64) soff S1x64.size sinb) (fun _ => rfl)).squeeze S64 squeezes_S1x64_S64)
              (.here (((Memref.whole cc0_scratch2 : Memref sig .scVector .vmem S64x64 .f32).slice (Rect.unit (s := S64x64) off S1x64.size inb) (fun _ => rfl)).squeeze S64 squeezes_S1x64_S64))
              (.dma cc0_scratch5.sem) hs hd hty) k) Q) := by
  subst hoff hsoff ht'
  have hu1 : uIdx t = t / 6 := by unfold uIdx; omega
  have hu2 : uIdx (t + 1) = t / 6 + 1 := by unfold uIdx; omega
  have hn2 : nIdx (t + 1) = nIdx t := by unfold nIdx; omega
  have hsr : srcRow xs ns c t = xrow xs c (t / 6) := by unfold srcRow; rw [if_pos h6]
  show _ ⊢ iprop(_ -∗ wp frame _ Set.univ
    (.op (.enqueueDmaAs (tRow (xrow xs c (t / 6))) (.here (uRow ⟨t / 6, uDiv_lt ht⟩)) .same (.dma cc0_scratch5.sem) hs hd hty) k) Q)
  unfold issueSt
  rw [hu1, hu2, hn2]
  iintro ⟨HB, HU, HN, HE, HR⟩ Hk
  -- the destination row off the rows in hand
  ihave HU' := (pointsTo_split_subset (uRowSet_sub ⟨t / 6, uDiv_lt ht⟩)).1 $$ HU
  icases HU' with ⟨HUrow, HUrest⟩
  -- the t-th half of the share, and of it the source row
  ihave HE' := (pointsTo_share (PosShare.mem_left_op_right (Transfers.shareDrop (qw L) t))).1 $$ HE
  icases HE' with ⟨HEleft, HEtok⟩
  ihave HT' := (pointsTo_split_subset (Finset.subset_univ (tRowSet (xrow xs c (t / 6))))).1 $$ HEtok
  icases HT' with ⟨HTrow, HTrest⟩
  iapply (Transfers.wp_dmaBatch (countersEmb (U := UU)) 𝒱₀ (V d (cV L) (jV L)) none (none : HIx 2) NR
      (src := tRow (xrow xs c (t / 6))) (dst := uRow ⟨t / 6, uDiv_lt ht⟩) (q := Transfers.shareTokN (qw L) t) (fs := m (euLoc d))
      (Sd := (uRow ⟨t / 6, uDiv_lt ht⟩).view.set) (fd := fu) (D := DU m d L xs ns c fu fn) (j := t) (u := 0)
      rfl (Finset.Subset.refl _) ht (Nat.zero_le _) ?hD) $$ [HTrow HUrow HB]
  case hD =>
    unfold DU; rw [if_pos h6]; unfold landU; rw [← set_uRow, ← set_tRow]; exact .rfl
  · rw [set_tRow, set_uRow]
    isplitl [HTrow]; · iexact HTrow
    isplitl [HUrow]; · iexact HUrow
    iexact HB
  iintro HB
  iapply Hk
  isplitl [HB]; · iexact HB
  isplitl [HUrest]; · rw [uFrom_sdiff ⟨t / 6, uDiv_lt ht⟩]; iexact HUrest
  isplitl [HN]; · iexact HN
  isplitl [HEleft]; · iexact HEleft
  rw [Ring.bigSep_range_succ]
  isplitl [HTrest]
  · unfold restTok; rw [hsr]; iexact HTrest
  · iexact HR

/-- A negative's row copy (transfer t, t mod 6 ≠ 0). -/
theorem issue_n {α : Type} (t t' : ℕ) (ht' : t' = t + 1) (ht : t < 384) (h6 : t % 6 ≠ 0)
    (off : Fin 2 → ℕ) (inb : ∀ a, off a + S1x64.size a ≤ S320x64.size a) (hoff : off = ![nIdx t, 0])
    (soff : Fin 2 → ℕ) (sinb : ∀ a, soff a + S1x64.size a ≤ S1000000x64.size a) (hsoff : soff = ![(nrow ns c (nIdx t)).val, 0])
    (hs : _) (hd : _) (hty : _)
    (k : PUnit → Prog (TpuEff nD τ sig (Elt F) Λ₀ (.scVector (cV L) (jV L))) α) (Q : α → sProp 𝕄) :
    issueSt m d L xs ns c fu fn t
      ⊢ iprop((issueSt m d L xs ns c fu fn t' -∗ wp frame (wpE (defs₀ (F := F)) 𝒱₀ (V d (cV L) (jV L)) none) Set.univ (k ⟨⟩) Q)
        -∗ wp frame (wpE (defs₀ (F := F)) 𝒱₀ (V d (cV L) (jV L)) none) Set.univ
          (.op (.enqueueDma
              (((Memref.whole main_arg4_scv : Memref sig .scVector .hbm S1000000x64 .f32).slice (Rect.unit (s := S1000000x64) soff S1x64.size sinb) (fun _ => rfl)).squeeze S64 squeezes_S1x64_S64)
              (.here (((Memref.whole cc0_scratch3 : Memref sig .scVector .vmem S320x64 .f32).slice (Rect.unit (s := S320x64) off S1x64.size inb) (fun _ => rfl)).squeeze S64 squeezes_S1x64_S64))
              (.dma cc0_scratch5.sem) hs hd hty) k) Q) := by
  subst hoff hsoff ht'
  have hu2 : uIdx (t + 1) = uIdx t := by unfold uIdx; omega
  have hn2 : nIdx (t + 1) = nIdx t + 1 := by unfold nIdx; omega
  have hsr : srcRow xs ns c t = nrow ns c (nIdx t) := by unfold srcRow; rw [if_neg h6]
  show _ ⊢ iprop(_ -∗ wp frame _ Set.univ
    (.op (.enqueueDmaAs (tRow (nrow ns c (nIdx t))) (.here (nRow ⟨nIdx t, nIdx_lt ht⟩)) .same (.dma cc0_scratch5.sem) hs hd hty) k) Q)
  unfold issueSt
  rw [hu2, hn2]
  iintro ⟨HB, HU, HN, HE, HR⟩ Hk
  ihave HN' := (pointsTo_split_subset (nRowSet_sub ⟨nIdx t, nIdx_lt ht⟩)).1 $$ HN
  icases HN' with ⟨HNrow, HNrest⟩
  ihave HE' := (pointsTo_share (PosShare.mem_left_op_right (Transfers.shareDrop (qw L) t))).1 $$ HE
  icases HE' with ⟨HEleft, HEtok⟩
  ihave HT' := (pointsTo_split_subset (Finset.subset_univ (tRowSet (nrow ns c (nIdx t))))).1 $$ HEtok
  icases HT' with ⟨HTrow, HTrest⟩
  iapply (Transfers.wp_dmaBatch (countersEmb (U := UU)) 𝒱₀ (V d (cV L) (jV L)) none (none : HIx 2) NR
      (src := tRow (nrow ns c (nIdx t))) (dst := nRow ⟨nIdx t, nIdx_lt ht⟩) (q := Transfers.shareTokN (qw L) t) (fs := m (euLoc d))
      (Sd := (nRow ⟨nIdx t, nIdx_lt ht⟩).view.set) (fd := fn) (D := DU m d L xs ns c fu fn) (j := t) (u := 0)
      rfl (Finset.Subset.refl _) ht (Nat.zero_le _) ?hD) $$ [HTrow HNrow HB]
  case hD =>
    unfold DU; rw [if_neg h6]; unfold landN; rw [← set_nRow, ← set_tRow]; exact .rfl
  · rw [set_tRow, set_nRow]
    isplitl [HTrow]; · iexact HTrow
    isplitl [HNrow]; · iexact HNrow
    iexact HB
  iintro HB
  iapply Hk
  isplitl [HB]; · iexact HB
  isplitl [HU]; · iexact HU
  isplitl [HNrest]; · rw [nFrom_sdiff ⟨nIdx t, nIdx_lt ht⟩]; iexact HNrest
  isplitl [HEleft]; · iexact HEleft
  rw [Ring.bigSep_range_succ]
  isplitl [HTrest]
  · unfold restTok; rw [hsr]; iexact HTrest
  · iexact HR

end Chunk

end Cert.Proof.KTileU

end
-- ==== Proof.KTileUTripSteps.lean ====
/-
  The index words a trip of the issue loop loads, lane by lane, and one guarded row copy as a proof step.
-/
import proofs.«218857_g62938450756068_cont_9to1c4b_813_41_alg».proof.Proof.KTileUIssue
import Idealize.ShloMosaic.Lib.Pipeline.Value

noncomputable section

namespace Cert.Proof.KTileU

open Cert.Kernel Cert.Kernel.Gen Cert.Proof.KernelBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

section Words

variable (xs : S512.Idx → BitVec 32) (ns : S2560.Idx → BitVec 32)

theorem vec2_eq (a b : ℕ) (h : a = b) : (![a, 0] : Fin 2 → ℕ) = ![b, 0] := by rw [h]

/-- A word picked out of a loaded vector of sixteen: lane l of it. -/
theorem word_eq (vec : IVec S16 32) (l : ℕ) (hl : l < 16) (h1 : S16.Slices ![l] S1) (h2 : ∀ a, (![0] : Fin 1 → ℕ) a < S1.size a) :
    extractAt ![0] (extractStridedSlice S1 ![l] vec h1) h2 = vec (ix1 ⟨l, hl⟩) := by
  unfold extractAt extractStridedSlice
  congr 1; funext a
  match a with
  | ⟨0, _⟩ => apply Fin.ext; simp

/-- Sixteen words loaded from offset o of a flat scratch buffer of index words: lane l is word o + l. -/
theorem load_x (off : Fin 1 → ℕ) (inb : ∀ a, off a + S16.size a ≤ S512.size a) (o : ℕ) (hoff : off = ![o]) (l : Fin 16) (ho : o + l.val < 512) :
    (Memref.whole cc0_scratch0 : Memref sig .scVector .vmem S512 .i32).view.readAt (Elt F) (Rect.unit (s := S512) off S16.size inb).toLoadRect xs (ix1 l)
      = xs (ix1 ⟨o + l.val, ho⟩) := by
  subst hoff
  rw [View.readAt_apply]
  simp only [Memref.view_whole, View.read_whole]
  congr 1; funext a
  match a with
  | ⟨0, _⟩ => apply Fin.ext; rw [LoadRect.idx_apply]; show o + 1 * l.val = o + l.val; omega
theorem load_n (off : Fin 1 → ℕ) (inb : ∀ a, off a + S16.size a ≤ S2560.size a) (o : ℕ) (hoff : off = ![o]) (l : Fin 16) (ho : o + l.val < 2560) :
    (Memref.whole cc0_scratch1 : Memref sig .scVector .vmem S2560 .i32).view.readAt (Elt F) (Rect.unit (s := S2560) off S16.size inb).toLoadRect ns (ix1 l)
      = ns (ix1 ⟨o + l.val, ho⟩) := by
  subst hoff
  rw [View.readAt_apply]
  simp only [Memref.view_whole, View.read_whole]
  congr 1; funext a
  match a with
  | ⟨0, _⟩ => apply Fin.ext; rw [LoadRect.idx_apply]; show o + 1 * l.val = o + l.val; omega

/-- Lane l of sixteen context words loaded at a closed-form offset o: word o + l. -/
theorem wordX (off : Fin 1 → ℕ) (inb : ∀ a, off a + S16.size a ≤ S512.size a) [hc : ClosedOff off] (o : ℕ) (ho : hc.form = ![o]) (hsc : _)
    (l : ℕ) (hl : l < 16) (h1 : _) (h2 : _) (hb : o + l < 512) :
    extractAt ![0] (extractStridedSlice S1 ![l] (shapeCast S16 ((Memref.whole cc0_scratch0 : Memref sig .scVector .vmem S512 .i32).view.readAt (Elt F) (Rect.unit (s := S512) off S16.size inb).toLoadRect xs) hsc) h1) h2
      = xs (ix1 ⟨o + l, hb⟩) := by
  refine (word_eq _ l hl h1 h2).trans ?_
  refine (congrFun (shapeCast_self (s := S16) _ _) _).trans ?_
  exact load_x (F := F) xs off inb o (hc.eq.trans ho) ⟨l, hl⟩ hb
theorem wordN (off : Fin 1 → ℕ) (inb : ∀ a, off a + S16.size a ≤ S2560.size a) [hc : ClosedOff off] (o : ℕ) (ho : hc.form = ![o]) (hsc : _)
    (l : ℕ) (hl : l < 16) (h1 : _) (h2 : _) (hb : o + l < 2560) :
    extractAt ![0] (extractStridedSlice S1 ![l] (shapeCast S16 ((Memref.whole cc0_scratch1 : Memref sig .scVector .vmem S2560 .i32).view.readAt (Elt F) (Rect.unit (s := S2560) off S16.size inb).toLoadRect ns) hsc) h1) h2
      = ns (ix1 ⟨o + l, hb⟩) := by
  refine (word_eq _ l hl h1 h2).trans ?_
  refine (congrFun (shapeCast_self (s := S16) _ _) _).trans ?_
  exact load_n (F := F) ns off inb o (hc.eq.trans ho) ⟨l, hl⟩ hb

end Words

/- One guarded row copy of trip g of chunk c: transfer 96 g + n of the chunk's batch. The context row of the trip's
   lane l (its word is lane l of the sixteen context words loaded from word 16 g + xb of the subcore's 512, xb = 64 c);
   the row of a negative word (a lane of the loaded vector of sixteen negative words that starts at word
   80 g + bv + cb of the subcore's 2560, cb = 320 c). -/
set_option hygiene false in
macro "kissue_u_step" c:num xoff:ident xb:num n:num l:num : tactic => `(tactic| (
  iapply (wp_assume 𝒱₀ (V d (cV L) (jV L)) none Set.univ (chk_of_lt _ (lt_of_eq_of_lt (congrArg BitVec.toNat
    (wordX (F := F) xs ($xoff g) _ (16 * g.val + $xb) rfl _ $l (by omega) (by decide) (by decide) (by omega))) (hxs _))))
  iapply (issue_u m d L xs ns $c fu fn (96 * g.val + $n) (96 * g.val + ($n + 1)) (by omega) (by omega) (by omega) _ _ ?hoff _ _ ?hsoff _ _ _ _ _) $$ HS
  case hoff => exact ClosedOff.eq.trans (vec2_eq _ _ (by omega))
  case hsoff =>
    exact soff_u xs $c _ _ (by omega)
      ((wordX (F := F) xs ($xoff g) _ (16 * g.val + $xb) rfl _ $l (by omega) (by decide) (by decide) (by omega)).trans
        (congrArg xs (congrArg ix1 (Fin.ext (by show 16 * g.val + $xb + $l = 64 * (($c : Fin 8) : ℕ) + _; omega)))))
      (lt_of_eq_of_lt (congrArg BitVec.toNat (wordX (F := F) xs ($xoff g) _ (16 * g.val + $xb) rfl _ $l (by omega) (by decide) (by decide) (by omega))) (hxs _))
  iintro HS))
set_option hygiene false in
macro "kissue_n_step" c:num noff:ident cb:num n:num bv:num lane:num : tactic => `(tactic| (
  iapply (wp_assume 𝒱₀ (V d (cV L) (jV L)) none Set.univ (chk_of_lt _ (lt_of_eq_of_lt (congrArg BitVec.toNat
    (wordN (F := F) ns ($noff g (BitVec.ofNat 32 $bv)) _ (80 * g.val + $bv + $cb) rfl _ $lane (by omega) (by decide) (by decide) (by omega))) (hns _))))
  iapply (issue_n m d L xs ns $c fu fn (96 * g.val + $n) (96 * g.val + ($n + 1)) (by omega) (by omega) (by omega) _ _ ?hoff _ _ ?hsoff _ _ _ _ _) $$ HS
  case hoff => exact ClosedOff.eq.trans (vec2_eq _ _ (by simp only [nIdx]; omega))
  case hsoff =>
    exact soff_n ns $c _ _ (by simp only [nIdx]; omega)
      ((wordN (F := F) ns ($noff g (BitVec.ofNat 32 $bv)) _ (80 * g.val + $bv + $cb) rfl _ $lane (by omega) (by decide) (by decide) (by omega)).trans
        (congrArg ns (congrArg ix1 (Fin.ext (by show 80 * g.val + $bv + $cb + $lane = 320 * (($c : Fin 8) : ℕ) + nIdx _; simp only [nIdx]; omega)))))
      (lt_of_eq_of_lt (congrArg BitVec.toNat (wordN (F := F) ns ($noff g (BitVec.ofNat 32 $bv)) _ (80 * g.val + $bv + $cb) rfl _ $lane (by omega) (by decide) (by decide) (by omega))) (hns _))
  iintro HS))

end Cert.Proof.KTileU

end
-- ==== Proof.KTileUTripTable.lean ====
import proofs.«218857_g62938450756068_cont_9to1c4b_813_41_alg».proof.Proof.KTileUTripSteps

namespace Cert.Proof.KTileU

/-- The ninety-six guarded row copies of one trip of chunk c's issue loop, in program order: per lane, the context
    row, then the five negatives' rows. Arguments: the chunk; the offset functions of the trip's loads of context and
    negative words with the chunk's first word (64 c, 320 c). -/
macro "kissue_steps" c:num xoff:ident xb:num noff:ident cb:num : tactic => `(tactic| (
  kissue_u_step $c $xoff $xb 0 0
  kissue_n_step $c $noff $cb 1 0 0
  kissue_n_step $c $noff $cb 2 0 1
  kissue_n_step $c $noff $cb 3 0 2
  kissue_n_step $c $noff $cb 4 0 3
  kissue_n_step $c $noff $cb 5 0 4
  kissue_u_step $c $xoff $xb 6 1
  kissue_n_step $c $noff $cb 7 0 5
  kissue_n_step $c $noff $cb 8 0 6
  kissue_n_step $c $noff $cb 9 0 7
  kissue_n_step $c $noff $cb 10 0 8
  kissue_n_step $c $noff $cb 11 0 9
  kissue_u_step $c $xoff $xb 12 2
  kissue_n_step $c $noff $cb 13 0 10
  kissue_n_step $c $noff $cb 14 0 11
  kissue_n_step $c $noff $cb 15 0 12
  kissue_n_step $c $noff $cb 16 0 13
  kissue_n_step $c $noff $cb 17 0 14
  kissue_u_step $c $xoff $xb 18 3
  kissue_n_step $c $noff $cb 19 0 15
  kissue_n_step $c $noff $cb 20 16 0
  kissue_n_step $c $noff $cb 21 16 1
  kissue_n_step $c $noff $cb 22 16 2
  kissue_n_step $c $noff $cb 23 16 3
  kissue_u_step $c $xoff $xb 24 4
  kissue_n_step $c $noff $cb 25 16 4
  kissue_n_step $c $noff $cb 26 16 5
  kissue_n_step $c $noff $cb 27 16 6
  kissue_n_step $c $noff $cb 28 16 7
  kissue_n_step $c $noff $cb 29 16 8
  kissue_u_step $c $xoff $xb 30 5
  kissue_n_step $c $noff $cb 31 16 9
  kissue_n_step $c $noff $cb 32 16 10
  kissue_n_step $c $noff $cb 33 16 11
  kissue_n_step $c $noff $cb 34 16 12
  kissue_n_step $c $noff $cb 35 16 13
  kissue_u_step $c $xoff $xb 36 6
  kissue_n_step $c $noff $cb 37 16 14
  kissue_n_step $c $noff $cb 38 16 15
  kissue_n_step $c $noff $cb 39 32 0
  kissue_n_step $c $noff $cb 40 32 1
  kissue_n_step $c $noff $cb 41 32 2
  kissue_u_step $c $xoff $xb 42 7
  kissue_n_step $c $noff $cb 43 32 3
  kissue_n_step $c $noff $cb 44 32 4
  kissue_n_step $c $noff $cb 45 32 5
  kissue_n_step $c $noff $cb 46 32 6
  kissue_n_step $c $noff $cb 47 32 7
  kissue_u_step $c $xoff $xb 48 8
  kissue_n_step $c $noff $cb 49 32 8
  kissue_n_step $c $noff $cb 50 32 9
  kissue_n_step $c $noff $cb 51 32 10
  kissue_n_step $c $noff $cb 52 32 11
  kissue_n_step $c $noff $cb 53 32 12
  kissue_u_step $c $xoff $xb 54 9
  kissue_n_step $c $noff $cb 55 32 13
  kissue_n_step $c $noff $cb 56 32 14
  kissue_n_step $c $noff $cb 57 32 15
  kissue_n_step $c $noff $cb 58 48 0
  kissue_n_step $c $noff $cb 59 48 1
  kissue_u_step $c $xoff $xb 60 10
  kissue_n_step $c $noff $cb 61 48 2
  kissue_n_step $c $noff $cb 62 48 3
  kissue_n_step $c $noff $cb 63 48 4
  kissue_n_step $c $noff $cb 64 48 5
  kissue_n_step $c $noff $cb 65 48 6
  kissue_u_step $c $xoff $xb 66 11
  kissue_n_step $c $noff $cb 67 48 7
  kissue_n_step $c $noff $cb 68 48 8
  kissue_n_step $c $noff $cb 69 48 9
  kissue_n_step $c $noff $cb 70 48 10
  kissue_n_step $c $noff $cb 71 48 11
  kissue_u_step $c $xoff $xb 72 12
  kissue_n_step $c $noff $cb 73 48 12
  kissue_n_step $c $noff $cb 74 48 13
  kissue_n_step $c $noff $cb 75 48 14
  kissue_n_step $c $noff $cb 76 48 15
  kissue_n_step $c $noff $cb 77 64 0
  kissue_u_step $c $xoff $xb 78 13
  kissue_n_step $c $noff $cb 79 64 1
  kissue_n_step $c $noff $cb 80 64 2
  kissue_n_step $c $noff $cb 81 64 3
  kissue_n_step $c $noff $cb 82 64 4
  kissue_n_step $c $noff $cb 83 64 5
  kissue_u_step $c $xoff $xb 84 14
  kissue_n_step $c $noff $cb 85 64 6
  kissue_n_step $c $noff $cb 86 64 7
  kissue_n_step $c $noff $cb 87 64 8
  kissue_n_step $c $noff $cb 88 64 9
  kissue_n_step $c $noff $cb 89 64 10
  kissue_u_step $c $xoff $xb 90 15
  kissue_n_step $c $noff $cb 91 64 11
  kissue_n_step $c $noff $cb 92 64 12
  kissue_n_step $c $noff $cb 93 64 13
  kissue_n_step $c $noff $cb 94 64 14
  kissue_n_step $c $noff $cb 95 64 15
  ))

end Cert.Proof.KTileU
-- ==== Proof.KTileUTripProof.lean ====
/-
  One trip of a chunk's issue loop, the argument: six loads of sixteen index words each (the trip's sixteen context
  words and eighty negative words), then ninety-six row copies, element by element, the context row first and the five
  negatives' rows after it, each guarded by the check that its word names a table row.
-/
import proofs.«218857_g62938450756068_cont_9to1c4b_813_41_alg».proof.Proof.KTileUTripTable

namespace Cert.Proof.KTileU

open Idealize.ShloMosaic Idealize.SL Idealize.SL.BI Idealize.SL.ProofMode Idealize.SL.Sem
open scoped Idealize.SL.BI

/- The trip, once its text is laid out as a sequence of operations: the six loads, the ninety-six guarded copies, the
    return. In scope where it is called: the trip g with g.val < 4 (hg), the chunk's number as a natural (hc0), the
    bounds on the index words (hxs, hns). -/
set_option hygiene false in
macro "ktrip_proof" c:num xoff:ident xb:num noff:ident cb:num : tactic => `(tactic| (
  iintro ⟨HS, HX, HN⟩
  iapply (wp_load 𝒱₀ (V d (cV L) (jV L)) none Set.univ (m := (Memref.whole cc0_scratch0 : Memref sig .scVector .vmem S512 .i32)) (S := Finset.univ) (Finset.subset_univ _)) $$ HX; iintro HX
  iapply (wp_load 𝒱₀ (V d (cV L) (jV L)) none Set.univ (m := (Memref.whole cc0_scratch1 : Memref sig .scVector .vmem S2560 .i32)) (S := Finset.univ) (Finset.subset_univ _)) $$ HN; iintro HN
  iapply (wp_load 𝒱₀ (V d (cV L) (jV L)) none Set.univ (m := (Memref.whole cc0_scratch1 : Memref sig .scVector .vmem S2560 .i32)) (S := Finset.univ) (Finset.subset_univ _)) $$ HN; iintro HN
  iapply (wp_load 𝒱₀ (V d (cV L) (jV L)) none Set.univ (m := (Memref.whole cc0_scratch1 : Memref sig .scVector .vmem S2560 .i32)) (S := Finset.univ) (Finset.subset_univ _)) $$ HN; iintro HN
  iapply (wp_load 𝒱₀ (V d (cV L) (jV L)) none Set.univ (m := (Memref.whole cc0_scratch1 : Memref sig .scVector .vmem S2560 .i32)) (S := Finset.univ) (Finset.subset_univ _)) $$ HN; iintro HN
  iapply (wp_load 𝒱₀ (V d (cV L) (jV L)) none Set.univ (m := (Memref.whole cc0_scratch1 : Memref sig .scVector .vmem S2560 .i32)) (S := Finset.univ) (Finset.subset_univ _)) $$ HN; iintro HN
  kissue_steps $c $xoff $xb $noff $cb
  rw [wp_ret]; imodintro
  rw [show 96 * (g.val + 1) = 96 * g.val + (95 + 1) by omega]
  isplitl [HS]; · iexact HS
  isplitl [HX] <;> iassumption))

end Cert.Proof.KTileU
-- ==== Proof.KTileUTripC0.lean ====
import proofs.«218857_g62938450756068_cont_9to1c4b_813_41_alg».proof.Proof.KTileUTripProof

noncomputable section

namespace Cert.Proof.KTileU

open Cert.Kernel Cert.Kernel.Gen Cert.Proof.KernelBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))

set_option maxHeartbeats 8000000 in
set_option maxRecDepth 65536 in
/-- Trip g of chunk 0's issue loop: transfers 96 g … 96 g + 95 of the chunk's batch. -/
theorem trip0 (hxs : ∀ j, (xs j).toNat < 1000000) (hns : ∀ j, (ns j).toNat < 1000000) (v2 : BitVec 32) (g : Fin k0_t1_loop.trips) (acc : Unit) :
    iprop(issueSt m d L xs ns 0 fu fn (96 * g.val) ∗ ((V d (cV L) (jV L)).loc cc0_scratch0 ↦{fullShare} xs) ∗ ((V d (cV L) (jV L)).loc cc0_scratch1 ↦{fullShare} ns))
      ⊢ wp frame (wpE (defs₀ (F := F)) 𝒱₀ (V d (cV L) (jV L)) none) Set.univ
          (k0_t1_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 g acc)
          (fun _ => iprop(issueSt m d L xs ns 0 fu fn (96 * (g.val + 1)) ∗ ((V d (cV L) (jV L)).loc cc0_scratch0 ↦{fullShare} xs) ∗ ((V d (cV L) (jV L)).loc cc0_scratch1 ↦{fullShare} ns))) := by
  have hg : g.val < 4 := lt_of_lt_of_le g.isLt k0_t1_abs.2.1
  have hc0 : ((0 : Fin 8) : ℕ) = 0 := rfl
  unfold k0_t1_body
  simp only [k0_part33_eq_skeleton]; unfold k0_part33_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel
  simp only [Prog.lift, Prog.bind_op, Prog.bind_ret, Prog.pure_eq_ret]
  ktrip_proof 0 k0_off3 0 k0_off4 0

end Cert.Proof.KTileU

end
-- ==== Proof.KTileUTripC1.lean ====
import proofs.«218857_g62938450756068_cont_9to1c4b_813_41_alg».proof.Proof.KTileUTripProof

noncomputable section

namespace Cert.Proof.KTileU

open Cert.Kernel Cert.Kernel.Gen Cert.Proof.KernelBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))

set_option maxHeartbeats 8000000 in
set_option maxRecDepth 65536 in
/-- Trip g of chunk 1's issue loop: transfers 96 g … 96 g + 95 of the chunk's batch. -/
theorem trip1 (hxs : ∀ j, (xs j).toNat < 1000000) (hns : ∀ j, (ns j).toNat < 1000000) (v2 : BitVec 32) (g : Fin k0_t4_loop.trips) (acc : Unit) :
    iprop(issueSt m d L xs ns 1 fu fn (96 * g.val) ∗ ((V d (cV L) (jV L)).loc cc0_scratch0 ↦{fullShare} xs) ∗ ((V d (cV L) (jV L)).loc cc0_scratch1 ↦{fullShare} ns))
      ⊢ wp frame (wpE (defs₀ (F := F)) 𝒱₀ (V d (cV L) (jV L)) none) Set.univ
          (k0_t4_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 g acc)
          (fun _ => iprop(issueSt m d L xs ns 1 fu fn (96 * (g.val + 1)) ∗ ((V d (cV L) (jV L)).loc cc0_scratch0 ↦{fullShare} xs) ∗ ((V d (cV L) (jV L)).loc cc0_scratch1 ↦{fullShare} ns))) := by
  have hg : g.val < 4 := lt_of_lt_of_le g.isLt k0_t4_abs.2.1
  have hc0 : ((1 : Fin 8) : ℕ) = 1 := rfl
  unfold k0_t4_body
  simp only [k0_part70_eq_skeleton]; unfold k0_part70_skel
  simp only [k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton]
  unfold k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel k0_part61_skel k0_part62_skel k0_part63_skel k0_part64_skel k0_part65_skel k0_part66_skel k0_part67_skel k0_part68_skel k0_part69_skel
  simp only [Prog.lift, Prog.bind_op, Prog.bind_ret, Prog.pure_eq_ret]
  ktrip_proof 1 k0_off239 64 k0_off240 320

end Cert.Proof.KTileU

end
-- ==== Proof.KTileUTripC2.lean ====
import proofs.«218857_g62938450756068_cont_9to1c4b_813_41_alg».proof.Proof.KTileUTripProof

noncomputable section

namespace Cert.Proof.KTileU

open Cert.Kernel Cert.Kernel.Gen Cert.Proof.KernelBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))

set_option maxHeartbeats 8000000 in
set_option maxRecDepth 65536 in
/-- Trip g of chunk 2's issue loop: transfers 96 g … 96 g + 95 of the chunk's batch. -/
theorem trip2 (hxs : ∀ j, (xs j).toNat < 1000000) (hns : ∀ j, (ns j).toNat < 1000000) (v2 : BitVec 32) (g : Fin k0_t7_loop.trips) (acc : Unit) :
    iprop(issueSt m d L xs ns 2 fu fn (96 * g.val) ∗ ((V d (cV L) (jV L)).loc cc0_scratch0 ↦{fullShare} xs) ∗ ((V d (cV L) (jV L)).loc cc0_scratch1 ↦{fullShare} ns))
      ⊢ wp frame (wpE (defs₀ (F := F)) 𝒱₀ (V d (cV L) (jV L)) none) Set.univ
          (k0_t7_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 g acc)
          (fun _ => iprop(issueSt m d L xs ns 2 fu fn (96 * (g.val + 1)) ∗ ((V d (cV L) (jV L)).loc cc0_scratch0 ↦{fullShare} xs) ∗ ((V d (cV L) (jV L)).loc cc0_scratch1 ↦{fullShare} ns))) := by
  have hg : g.val < 4 := lt_of_lt_of_le g.isLt k0_t7_abs.2.1
  have hc0 : ((2 : Fin 8) : ℕ) = 2 := rfl
  unfold k0_t7_body
  simp only [k0_part107_eq_skeleton]; unfold k0_part107_skel
  simp only [k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton]
  unfold k0_part75_skel k0_part76_skel k0_part77_skel k0_part78_skel k0_part79_skel k0_part80_skel k0_part81_skel k0_part82_skel k0_part83_skel k0_part84_skel k0_part85_skel k0_part86_skel k0_part87_skel k0_part88_skel k0_part89_skel k0_part90_skel k0_part91_skel k0_part92_skel k0_part93_skel k0_part94_skel k0_part95_skel k0_part96_skel k0_part97_skel k0_part98_skel k0_part99_skel k0_part100_skel k0_part101_skel k0_part102_skel k0_part103_skel k0_part104_skel k0_part105_skel k0_part106_skel
  simp only [Prog.lift, Prog.bind_op, Prog.bind_ret, Prog.pure_eq_ret]
  ktrip_proof 2 k0_off474 128 k0_off475 640

end Cert.Proof.KTileU

end
-- ==== Proof.KTileUTripC3.lean ====
import proofs.«218857_g62938450756068_cont_9to1c4b_813_41_alg».proof.Proof.KTileUTripProof

noncomputable section

namespace Cert.Proof.KTileU

open Cert.Kernel Cert.Kernel.Gen Cert.Proof.KernelBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))

set_option maxHeartbeats 8000000 in
set_option maxRecDepth 65536 in
/-- Trip g of chunk 3's issue loop: transfers 96 g … 96 g + 95 of the chunk's batch. -/
theorem trip3 (hxs : ∀ j, (xs j).toNat < 1000000) (hns : ∀ j, (ns j).toNat < 1000000) (v2 : BitVec 32) (g : Fin k0_t10_loop.trips) (acc : Unit) :
    iprop(issueSt m d L xs ns 3 fu fn (96 * g.val) ∗ ((V d (cV L) (jV L)).loc cc0_scratch0 ↦{fullShare} xs) ∗ ((V d (cV L) (jV L)).loc cc0_scratch1 ↦{fullShare} ns))
      ⊢ wp frame (wpE (defs₀ (F := F)) 𝒱₀ (V d (cV L) (jV L)) none) Set.univ
          (k0_t10_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 g acc)
          (fun _ => iprop(issueSt m d L xs ns 3 fu fn (96 * (g.val + 1)) ∗ ((V d (cV L) (jV L)).loc cc0_scratch0 ↦{fullShare} xs) ∗ ((V d (cV L) (jV L)).loc cc0_scratch1 ↦{fullShare} ns))) := by
  have hg : g.val < 4 := lt_of_lt_of_le g.isLt k0_t10_abs.2.1
  have hc0 : ((3 : Fin 8) : ℕ) = 3 := rfl
  unfold k0_t10_body
  simp only [k0_part144_eq_skeleton]; unfold k0_part144_skel
  simp only [k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton]
  unfold k0_part112_skel k0_part113_skel k0_part114_skel k0_part115_skel k0_part116_skel k0_part117_skel k0_part118_skel k0_part119_skel k0_part120_skel k0_part121_skel k0_part122_skel k0_part123_skel k0_part124_skel k0_part125_skel k0_part126_skel k0_part127_skel k0_part128_skel k0_part129_skel k0_part130_skel k0_part131_skel k0_part132_skel k0_part133_skel k0_part134_skel k0_part135_skel k0_part136_skel k0_part137_skel k0_part138_skel k0_part139_skel k0_part140_skel k0_part141_skel k0_part142_skel k0_part143_skel
  simp only [Prog.lift, Prog.bind_op, Prog.bind_ret, Prog.pure_eq_ret]
  ktrip_proof 3 k0_off709 192 k0_off710 960

end Cert.Proof.KTileU

end
-- ==== Proof.KTileUTripC4.lean ====
import proofs.«218857_g62938450756068_cont_9to1c4b_813_41_alg».proof.Proof.KTileUTripProof

noncomputable section

namespace Cert.Proof.KTileU

open Cert.Kernel Cert.Kernel.Gen Cert.Proof.KernelBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))

set_option maxHeartbeats 8000000 in
set_option maxRecDepth 65536 in
/-- Trip g of chunk 4's issue loop: transfers 96 g … 96 g + 95 of the chunk's batch. -/
theorem trip4 (hxs : ∀ j, (xs j).toNat < 1000000) (hns : ∀ j, (ns j).toNat < 1000000) (v2 : BitVec 32) (g : Fin k0_t13_loop.trips) (acc : Unit) :
    iprop(issueSt m d L xs ns 4 fu fn (96 * g.val) ∗ ((V d (cV L) (jV L)).loc cc0_scratch0 ↦{fullShare} xs) ∗ ((V d (cV L) (jV L)).loc cc0_scratch1 ↦{fullShare} ns))
      ⊢ wp frame (wpE (defs₀ (F := F)) 𝒱₀ (V d (cV L) (jV L)) none) Set.univ
          (k0_t13_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 g acc)
          (fun _ => iprop(issueSt m d L xs ns 4 fu fn (96 * (g.val + 1)) ∗ ((V d (cV L) (jV L)).loc cc0_scratch0 ↦{fullShare} xs) ∗ ((V d (cV L) (jV L)).loc cc0_scratch1 ↦{fullShare} ns))) := by
  have hg : g.val < 4 := lt_of_lt_of_le g.isLt k0_t13_abs.2.1
  have hc0 : ((4 : Fin 8) : ℕ) = 4 := rfl
  unfold k0_t13_body
  simp only [k0_part181_eq_skeleton]; unfold k0_part181_skel
  simp only [k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton]
  unfold k0_part149_skel k0_part150_skel k0_part151_skel k0_part152_skel k0_part153_skel k0_part154_skel k0_part155_skel k0_part156_skel k0_part157_skel k0_part158_skel k0_part159_skel k0_part160_skel k0_part161_skel k0_part162_skel k0_part163_skel k0_part164_skel k0_part165_skel k0_part166_skel k0_part167_skel k0_part168_skel k0_part169_skel k0_part170_skel k0_part171_skel k0_part172_skel k0_part173_skel k0_part174_skel k0_part175_skel k0_part176_skel k0_part177_skel k0_part178_skel k0_part179_skel k0_part180_skel
  simp only [Prog.lift, Prog.bind_op, Prog.bind_ret, Prog.pure_eq_ret]
  ktrip_proof 4 k0_off944 256 k0_off945 1280

end Cert.Proof.KTileU

end
-- ==== Proof.KTileUTripC5.lean ====
import proofs.«218857_g62938450756068_cont_9to1c4b_813_41_alg».proof.Proof.KTileUTripProof

noncomputable section

namespace Cert.Proof.KTileU

open Cert.Kernel Cert.Kernel.Gen Cert.Proof.KernelBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))

set_option maxHeartbeats 8000000 in
set_option maxRecDepth 65536 in
/-- Trip g of chunk 5's issue loop: transfers 96 g … 96 g + 95 of the chunk's batch. -/
theorem trip5 (hxs : ∀ j, (xs j).toNat < 1000000) (hns : ∀ j, (ns j).toNat < 1000000) (v2 : BitVec 32) (g : Fin k0_t16_loop.trips) (acc : Unit) :
    iprop(issueSt m d L xs ns 5 fu fn (96 * g.val) ∗ ((V d (cV L) (jV L)).loc cc0_scratch0 ↦{fullShare} xs) ∗ ((V d (cV L) (jV L)).loc cc0_scratch1 ↦{fullShare} ns))
      ⊢ wp frame (wpE (defs₀ (F := F)) 𝒱₀ (V d (cV L) (jV L)) none) Set.univ
          (k0_t16_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 g acc)
          (fun _ => iprop(issueSt m d L xs ns 5 fu fn (96 * (g.val + 1)) ∗ ((V d (cV L) (jV L)).loc cc0_scratch0 ↦{fullShare} xs) ∗ ((V d (cV L) (jV L)).loc cc0_scratch1 ↦{fullShare} ns))) := by
  have hg : g.val < 4 := lt_of_lt_of_le g.isLt k0_t16_abs.2.1
  have hc0 : ((5 : Fin 8) : ℕ) = 5 := rfl
  unfold k0_t16_body
  simp only [k0_part218_eq_skeleton]; unfold k0_part218_skel
  simp only [k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton]
  unfold k0_part186_skel k0_part187_skel k0_part188_skel k0_part189_skel k0_part190_skel k0_part191_skel k0_part192_skel k0_part193_skel k0_part194_skel k0_part195_skel k0_part196_skel k0_part197_skel k0_part198_skel k0_part199_skel k0_part200_skel k0_part201_skel k0_part202_skel k0_part203_skel k0_part204_skel k0_part205_skel k0_part206_skel k0_part207_skel k0_part208_skel k0_part209_skel k0_part210_skel k0_part211_skel k0_part212_skel k0_part213_skel k0_part214_skel k0_part215_skel k0_part216_skel k0_part217_skel
  simp only [Prog.lift, Prog.bind_op, Prog.bind_ret, Prog.pure_eq_ret]
  ktrip_proof 5 k0_off1179 320 k0_off1180 1600

end Cert.Proof.KTileU

end
-- ==== Proof.KTileUTripC6.lean ====
import proofs.«218857_g62938450756068_cont_9to1c4b_813_41_alg».proof.Proof.KTileUTripProof

noncomputable section

namespace Cert.Proof.KTileU

open Cert.Kernel Cert.Kernel.Gen Cert.Proof.KernelBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))

set_option maxHeartbeats 8000000 in
set_option maxRecDepth 65536 in
/-- Trip g of chunk 6's issue loop: transfers 96 g … 96 g + 95 of the chunk's batch. -/
theorem trip6 (hxs : ∀ j, (xs j).toNat < 1000000) (hns : ∀ j, (ns j).toNat < 1000000) (v2 : BitVec 32) (g : Fin k0_t19_loop.trips) (acc : Unit) :
    iprop(issueSt m d L xs ns 6 fu fn (96 * g.val) ∗ ((V d (cV L) (jV L)).loc cc0_scratch0 ↦{fullShare} xs) ∗ ((V d (cV L) (jV L)).loc cc0_scratch1 ↦{fullShare} ns))
      ⊢ wp frame (wpE (defs₀ (F := F)) 𝒱₀ (V d (cV L) (jV L)) none) Set.univ
          (k0_t19_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 g acc)
          (fun _ => iprop(issueSt m d L xs ns 6 fu fn (96 * (g.val + 1)) ∗ ((V d (cV L) (jV L)).loc cc0_scratch0 ↦{fullShare} xs) ∗ ((V d (cV L) (jV L)).loc cc0_scratch1 ↦{fullShare} ns))) := by
  have hg : g.val < 4 := lt_of_lt_of_le g.isLt k0_t19_abs.2.1
  have hc0 : ((6 : Fin 8) : ℕ) = 6 := rfl
  unfold k0_t19_body
  simp only [k0_part255_eq_skeleton]; unfold k0_part255_skel
  simp only [k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton]
  unfold k0_part223_skel k0_part224_skel k0_part225_skel k0_part226_skel k0_part227_skel k0_part228_skel k0_part229_skel k0_part230_skel k0_part231_skel k0_part232_skel k0_part233_skel k0_part234_skel k0_part235_skel k0_part236_skel k0_part237_skel k0_part238_skel k0_part239_skel k0_part240_skel k0_part241_skel k0_part242_skel k0_part243_skel k0_part244_skel k0_part245_skel k0_part246_skel k0_part247_skel k0_part248_skel k0_part249_skel k0_part250_skel k0_part251_skel k0_part252_skel k0_part253_skel k0_part254_skel
  simp only [Prog.lift, Prog.bind_op, Prog.bind_ret, Prog.pure_eq_ret]
  ktrip_proof 6 k0_off1414 384 k0_off1415 1920

end Cert.Proof.KTileU

end
-- ==== Proof.KTileUTripC7.lean ====
import proofs.«218857_g62938450756068_cont_9to1c4b_813_41_alg».proof.Proof.KTileUTripProof

noncomputable section

namespace Cert.Proof.KTileU

open Cert.Kernel Cert.Kernel.Gen Cert.Proof.KernelBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))

set_option maxHeartbeats 8000000 in
set_option maxRecDepth 65536 in
/-- Trip g of chunk 7's issue loop: transfers 96 g … 96 g + 95 of the chunk's batch. -/
theorem trip7 (hxs : ∀ j, (xs j).toNat < 1000000) (hns : ∀ j, (ns j).toNat < 1000000) (v2 : BitVec 32) (g : Fin k0_t22_loop.trips) (acc : Unit) :
    iprop(issueSt m d L xs ns 7 fu fn (96 * g.val) ∗ ((V d (cV L) (jV L)).loc cc0_scratch0 ↦{fullShare} xs) ∗ ((V d (cV L) (jV L)).loc cc0_scratch1 ↦{fullShare} ns))
      ⊢ wp frame (wpE (defs₀ (F := F)) 𝒱₀ (V d (cV L) (jV L)) none) Set.univ
          (k0_t22_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 g acc)
          (fun _ => iprop(issueSt m d L xs ns 7 fu fn (96 * (g.val + 1)) ∗ ((V d (cV L) (jV L)).loc cc0_scratch0 ↦{fullShare} xs) ∗ ((V d (cV L) (jV L)).loc cc0_scratch1 ↦{fullShare} ns))) := by
  have hg : g.val < 4 := lt_of_lt_of_le g.isLt k0_t22_abs.2.1
  have hc0 : ((7 : Fin 8) : ℕ) = 7 := rfl
  unfold k0_t22_body
  simp only [k0_part292_eq_skeleton]; unfold k0_part292_skel
  simp only [k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton]
  unfold k0_part260_skel k0_part261_skel k0_part262_skel k0_part263_skel k0_part264_skel k0_part265_skel k0_part266_skel k0_part267_skel k0_part268_skel k0_part269_skel k0_part270_skel k0_part271_skel k0_part272_skel k0_part273_skel k0_part274_skel k0_part275_skel k0_part276_skel k0_part277_skel k0_part278_skel k0_part279_skel k0_part280_skel k0_part281_skel k0_part282_skel k0_part283_skel k0_part284_skel k0_part285_skel k0_part286_skel k0_part287_skel k0_part288_skel k0_part289_skel k0_part290_skel k0_part291_skel
  simp only [Prog.lift, Prog.bind_op, Prog.bind_ret, Prog.pure_eq_ret]
  ktrip_proof 7 k0_off1649 448 k0_off1650 2240

end Cert.Proof.KTileU

end
-- ==== Proof.KTileUDrain.lean ====
/-
  The waits that drain a chunk's batch: each takes one row's credit off the semaphore; none but the last tells the
  subcore anything, the last hands back every delivery and the semaphore at zero.
-/
import proofs.«218857_g62938450756068_cont_9to1c4b_813_41_alg».proof.Proof.KTileUBatch

noncomputable section

namespace Cert.Proof.KTileU

open Cert.Kernel Cert.Kernel.Gen Cert.Proof.KernelBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

section Chunk

variable (m : (ℓ : Loc nD τ sig) → Buf (Elt F) ℓ) (d : Dev nD) (L : grid0.Coords)
variable (xs : S512.Idx → BitVec 32) (ns : S2560.Idx → BitVec 32) (c : Fin 8)
variable (fu : Buf (Elt F) ((V d (cV L) (jV L)).loc cc0_scratch2)) (fn : Buf (Elt F) ((V d (cV L) (jV L)).loc cc0_scratch3))
variable (O : CellTallies nD τ sig (HIx 2)) (W : Waits sig (HIx 2))

/-- What the subcore owes, with the waits recorded so far (all at no index beyond those it started with). -/
def owesSt : sProp 𝕄 := iprop(∃ W', ⌜∀ p ∈ W', p ∈ W ∨ p.2 = none⌝ ∗ owes (V d (cV L) (jV L)) O W')

theorem NR_pos : 0 < NR := View.amount_pos _ _ (show 0 < S64.numel by decide)

/-- A wait that is not the batch's last. -/
theorem wait_skip {α : Type} (hO : ∀ g, O g none = 0) (u : ℕ) (hu : u + NR < NR * 384)
    {sp' : Space} {s' : Shape} {e' : EltTy} (srcw : Memref sig .scVector sp' s' e') (dstw : Memref sig .scVector .vmem S64 .f32)
    (hcred : dstw.view.dmaCredit = NR) (hs : _) (hd : _)
    (k : PUnit → Prog (TpuEff nD τ sig (Elt F) Λ₀ (.scVector (cV L) (jV L))) α) (Q : α → sProp 𝕄) :
    iprop(□ levAts (K (F := F)).L (K (F := F)).lev ∗ batchU m d L xs ns c fu fn 384 u ∗ owesSt d L O W)
      ⊢ iprop((iprop(batchU m d L xs ns c fu fn 384 (u + NR) ∗ owesSt d L O W) -∗ wp frame (wpE (defs₀ (F := F)) 𝒱₀ (V d (cV L) (jV L)) none) Set.univ (k ⟨⟩) Q)
          -∗ wp frame (wpE (defs₀ (F := F)) 𝒱₀ (V d (cV L) (jV L)) none) Set.univ (.op (.waitDma2 cc0_scratch5.sem srcw dstw hs hd) k) Q) := by
  unfold owesSt
  iintro ⟨#Hlv, HB, %W', %hW', HO⟩ Hk
  iapply (Transfers.wp_waitBatchO (countersEmb (U := UU)) 𝒱₀ (V d (cV L) (jV L)) none (none : HIx 2) hcred hu (O := O) (W := W')) $$ [HB HO]
  · isplitl [HB]; · iexact HB
    isplitl [HO]; · iexact HO
    iapply ((K (F := F)).mayWait_none (SemLoc.dma cc0_scratch5.sem) hO); iexact Hlv
  iintro ⟨HB, HO⟩
  iapply Hk
  isplitl [HB]; · iexact HB
  iexists (insert (SemLoc.dma cc0_scratch5.sem, (none : HIx 2)) W'); isplitr
  · ipureintro; intro p hp
    rcases Finset.mem_insert.mp hp with rfl | hp
    · exact .inr rfl
    · exact hW' p hp
  · iexact HO

/-- The batch's last wait: every delivery, and the semaphore at zero. -/
theorem wait_last {α : Type} (hO : ∀ g, O g none = 0) (u : ℕ) (hu : u + NR = NR * 384)
    {sp' : Space} {s' : Shape} {e' : EltTy} (srcw : Memref sig .scVector sp' s' e') (dstw : Memref sig .scVector .vmem S64 .f32)
    (hcred : dstw.view.dmaCredit = NR) (hs : _) (hd : _)
    (k : PUnit → Prog (TpuEff nD τ sig (Elt F) Λ₀ (.scVector (cV L) (jV L))) α) (Q : α → sProp 𝕄) :
    iprop(□ levAts (K (F := F)).L (K (F := F)).lev ∗ batchU m d L xs ns c fu fn 384 u ∗ owesSt d L O W)
      ⊢ iprop((iprop(bigSep Finset.univ (DU m d L xs ns c fu fn) ∗ semVal ((V d (cV L) (jV L), SemLoc.dma cc0_scratch5.sem) : GSem nD τ sig) 0 ∗ owesSt d L O W)
            -∗ wp frame (wpE (defs₀ (F := F)) 𝒱₀ (V d (cV L) (jV L)) none) Set.univ (k ⟨⟩) Q)
          -∗ wp frame (wpE (defs₀ (F := F)) 𝒱₀ (V d (cV L) (jV L)) none) Set.univ (.op (.waitDma2 cc0_scratch5.sem srcw dstw hs hd) k) Q) := by
  unfold owesSt
  iintro ⟨#Hlv, HB, %W', %hW', HO⟩ Hk
  iapply (Transfers.wp_waitBatchLastO (countersEmb (U := UU)) 𝒱₀ (V d (cV L) (jV L)) none (none : HIx 2) hcred NR_pos hu (O := O) (W := W')) $$ [HB HO]
  · isplitl [HB]; · iexact HB
    isplitl [HO]; · iexact HO
    iapply ((K (F := F)).mayWait_none (SemLoc.dma cc0_scratch5.sem) hO); iexact Hlv
  iintro ⟨HD, Hsem, HO⟩
  iapply Hk
  isplitl [HD]; · iexact HD
  isplitl [Hsem]; · iexact Hsem
  iexists (insert (SemLoc.dma cc0_scratch5.sem, (none : HIx 2)) W'); isplitr
  · ipureintro; intro p hp
    rcases Finset.mem_insert.mp hp with rfl | hp
    · exact .inr rfl
    · exact hW' p hp
  · iexact HO

end Chunk

end Cert.Proof.KTileU

end
-- ==== Proof.KTileUDrainLoop.lean ====
/-
  A chunk's drain loop: sixty-four trips of six waits. Before trip k, 6 k rows' credit has been taken off the
  semaphore; the last wait of the last trip hands back every delivery.
-/
import proofs.«218857_g62938450756068_cont_9to1c4b_813_41_alg».proof.Proof.KTileUDrain

noncomputable section

namespace Cert.Proof.KTileU

open Cert.Kernel Cert.Kernel.Gen Cert.Proof.KernelBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

section Chunk

variable (m : (ℓ : Loc nD τ sig) → Buf (Elt F) ℓ) (d : Dev nD) (L : grid0.Coords)
variable (xs : S512.Idx → BitVec 32) (ns : S2560.Idx → BitVec 32) (c : Fin 8)
variable (fu : Buf (Elt F) ((V d (cV L) (jV L)).loc cc0_scratch2)) (fn : Buf (Elt F) ((V d (cV L) (jV L)).loc cc0_scratch3))
variable (O : CellTallies nD τ sig (HIx 2)) (W : Waits sig (HIx 2))

theorem hskip (n : ℕ) (h : n + 1 < 384) : n * NR + NR < NR * 384 := by
  calc n * NR + NR = (n + 1) * NR := (Nat.succ_mul n NR).symm
    _ < 384 * NR := Nat.mul_lt_mul_of_pos_right h NR_pos
    _ = NR * 384 := Nat.mul_comm _ _
theorem hlast : 383 * NR + NR = NR * 384 := by
  rw [← Nat.succ_mul]; exact Nat.mul_comm _ _

/-- A wait that is not the last, by the number of rows waited for. -/
theorem wait_skip' {α : Type} (hO : ∀ g, O g none = 0) (n : ℕ) (hn : n + 1 < 384)
    {sp' : Space} {s' : Shape} {e' : EltTy} (srcw : Memref sig .scVector sp' s' e') (dstw : Memref sig .scVector .vmem S64 .f32)
    (hcred : dstw.view.dmaCredit = NR) (hs : _) (hd : _)
    (k : PUnit → Prog (TpuEff nD τ sig (Elt F) Λ₀ (.scVector (cV L) (jV L))) α) (Q : α → sProp 𝕄) :
    iprop(□ levAts (K (F := F)).L (K (F := F)).lev ∗ batchU m d L xs ns c fu fn 384 (n * NR) ∗ owesSt d L O W)
      ⊢ iprop((iprop(batchU m d L xs ns c fu fn 384 ((n + 1) * NR) ∗ owesSt d L O W) -∗ wp frame (wpE (defs₀ (F := F)) 𝒱₀ (V d (cV L) (jV L)) none) Set.univ (k ⟨⟩) Q)
          -∗ wp frame (wpE (defs₀ (F := F)) 𝒱₀ (V d (cV L) (jV L)) none) Set.univ (.op (.waitDma2 cc0_scratch5.sem srcw dstw hs hd) k) Q) := by
  rw [Nat.succ_mul]
  exact wait_skip m d L xs ns c fu fn O W hO (n * NR) (hskip n hn) srcw dstw hcred hs hd k Q

/-- Before trip k of the drain loop. -/
def drainSt (k : ℕ) : sProp 𝕄 :=
  iprop(□ levAts (K (F := F)).L (K (F := F)).lev ∗ owesSt d L O W
    ∗ (if k < 64 then batchU m d L xs ns c fu fn 384 (6 * k * NR)
       else iprop(bigSep Finset.univ (DU m d L xs ns c fu fn) ∗ semVal ((V d (cV L) (jV L), SemLoc.dma cc0_scratch5.sem) : GSem nD τ sig) 0)))

end Chunk

/- A trip of a chunk's drain loop, once its text is laid out as six waits: five (or six) that are not the batch's
    last, and on the last trip the last. In scope where it is called: the trip g with g.val < 64 (hg), hO. -/
set_option hygiene false in
macro "kdrain_proof" c:num : tactic => `(tactic| (
  unfold drainSt
  rw [if_pos hg]
  iintro ⟨#Hlv, HO, HB⟩
  iapply (wait_skip' m d L xs ns $c fu fn O W hO (6 * g.val) (by omega) _ _ rfl _ _ _ _) $$ [HB HO]
  · isplitr; · iexact Hlv
    isplitl [HB] <;> iassumption
  iintro ⟨HB, HO⟩
  iapply (wait_skip' m d L xs ns $c fu fn O W hO (6 * g.val + 1) (by omega) _ _ rfl _ _ _ _) $$ [HB HO]
  · isplitr; · iexact Hlv
    isplitl [HB] <;> iassumption
  iintro ⟨HB, HO⟩
  iapply (wait_skip' m d L xs ns $c fu fn O W hO (6 * g.val + 1 + 1) (by omega) _ _ rfl _ _ _ _) $$ [HB HO]
  · isplitr; · iexact Hlv
    isplitl [HB] <;> iassumption
  iintro ⟨HB, HO⟩
  iapply (wait_skip' m d L xs ns $c fu fn O W hO (6 * g.val + 1 + 1 + 1) (by omega) _ _ rfl _ _ _ _) $$ [HB HO]
  · isplitr; · iexact Hlv
    isplitl [HB] <;> iassumption
  iintro ⟨HB, HO⟩
  iapply (wait_skip' m d L xs ns $c fu fn O W hO (6 * g.val + 1 + 1 + 1 + 1) (by omega) _ _ rfl _ _ _ _) $$ [HB HO]
  · isplitr; · iexact Hlv
    isplitl [HB] <;> iassumption
  iintro ⟨HB, HO⟩
  rcases Nat.lt_or_ge (g.val + 1) 64 with h1 | h1
  · iapply (wait_skip' m d L xs ns $c fu fn O W hO (6 * g.val + 1 + 1 + 1 + 1 + 1) (by omega) _ _ rfl _ _ _ _) $$ [HB HO]
    · isplitr; · iexact Hlv
      isplitl [HB] <;> iassumption
    iintro ⟨HB, HO⟩
    rw [wp_ret]; imodintro
    rw [if_pos h1, show 6 * (g.val + 1) = 6 * g.val + 1 + 1 + 1 + 1 + 1 + 1 by omega]
    isplitr; · iexact Hlv
    isplitl [HO]; · iexact HO
    iexact HB
  · have hg63 : g.val = 63 := by omega
    rw [show (6 * g.val + 1 + 1 + 1 + 1 + 1) * NR = 383 * NR by rw [hg63]]
    iapply (wait_last m d L xs ns $c fu fn O W hO (383 * NR) hlast _ _ rfl _ _ _ _) $$ [HB HO]
    · isplitr; · iexact Hlv
      isplitl [HB] <;> iassumption
    iintro ⟨HD, Hsem, HO⟩
    rw [wp_ret]; imodintro
    rw [if_neg (by omega)]
    isplitr; · iexact Hlv
    isplitl [HO]; · iexact HO
    isplitl [HD] <;> iassumption))

section Chunk0

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))
variable (O : CellTallies nD τ sig (HIx 2)) (W : Waits sig (HIx 2))

set_option maxRecDepth 65536 in
/-- Trip g of the first chunk's drain loop. -/
theorem drain_trip0 (hO : ∀ g, O g none = 0) (v2 : BitVec 32) (g : Fin k0_t2_loop.trips) (acc : Unit) :
    drainSt m d L xs ns 0 fu fn O W g.val
      ⊢ wp frame (wpE (defs₀ (F := F)) 𝒱₀ (V d (cV L) (jV L)) none) Set.univ
          (k0_t2_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 g acc)
          (fun _ => drainSt m d L xs ns 0 fu fn O W (g.val + 1)) := by
  have hg : g.val < 64 := lt_of_lt_of_le g.isLt k0_t2_abs.2.1
  unfold k0_t2_body
  simp only [k0_part34_eq_skeleton]; unfold k0_part34_skel
  simp only [Prog.lift, Prog.bind_op, Prog.bind_ret, Prog.pure_eq_ret]
  kdrain_proof 0

end Chunk0

end Cert.Proof.KTileU

end
-- ==== Proof.KTileUDrainC1.lean ====
import proofs.«218857_g62938450756068_cont_9to1c4b_813_41_alg».proof.Proof.KTileUDrainLoop

noncomputable section

namespace Cert.Proof.KTileU

open Cert.Kernel Cert.Kernel.Gen Cert.Proof.KernelBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))
variable (O : CellTallies nD τ sig (HIx 2)) (W : Waits sig (HIx 2))

set_option maxRecDepth 65536 in
/-- Trip g of chunk 1's drain loop. -/
theorem drain_trip1 (hO : ∀ g, O g none = 0) (v2 : BitVec 32) (g : Fin k0_t5_loop.trips) (acc : Unit) :
    drainSt m d L xs ns 1 fu fn O W g.val
      ⊢ wp frame (wpE (defs₀ (F := F)) 𝒱₀ (V d (cV L) (jV L)) none) Set.univ
          (k0_t5_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 g acc)
          (fun _ => drainSt m d L xs ns 1 fu fn O W (g.val + 1)) := by
  have hg : g.val < 64 := lt_of_lt_of_le g.isLt k0_t5_abs.2.1
  unfold k0_t5_body
  simp only [k0_part71_eq_skeleton]; unfold k0_part71_skel
  simp only [Prog.lift, Prog.bind_op, Prog.bind_ret, Prog.pure_eq_ret]
  kdrain_proof 1

end Cert.Proof.KTileU

end
-- ==== Proof.KTileUDrainC2.lean ====
import proofs.«218857_g62938450756068_cont_9to1c4b_813_41_alg».proof.Proof.KTileUDrainLoop

noncomputable section

namespace Cert.Proof.KTileU

open Cert.Kernel Cert.Kernel.Gen Cert.Proof.KernelBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))
variable (O : CellTallies nD τ sig (HIx 2)) (W : Waits sig (HIx 2))

set_option maxRecDepth 65536 in
/-- Trip g of chunk 2's drain loop. -/
theorem drain_trip2 (hO : ∀ g, O g none = 0) (v2 : BitVec 32) (g : Fin k0_t8_loop.trips) (acc : Unit) :
    drainSt m d L xs ns 2 fu fn O W g.val
      ⊢ wp frame (wpE (defs₀ (F := F)) 𝒱₀ (V d (cV L) (jV L)) none) Set.univ
          (k0_t8_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 g acc)
          (fun _ => drainSt m d L xs ns 2 fu fn O W (g.val + 1)) := by
  have hg : g.val < 64 := lt_of_lt_of_le g.isLt k0_t8_abs.2.1
  unfold k0_t8_body
  simp only [k0_part108_eq_skeleton]; unfold k0_part108_skel
  simp only [Prog.lift, Prog.bind_op, Prog.bind_ret, Prog.pure_eq_ret]
  kdrain_proof 2

end Cert.Proof.KTileU

end
-- ==== Proof.KTileUDrainC3.lean ====
import proofs.«218857_g62938450756068_cont_9to1c4b_813_41_alg».proof.Proof.KTileUDrainLoop

noncomputable section

namespace Cert.Proof.KTileU

open Cert.Kernel Cert.Kernel.Gen Cert.Proof.KernelBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))
variable (O : CellTallies nD τ sig (HIx 2)) (W : Waits sig (HIx 2))

set_option maxRecDepth 65536 in
/-- Trip g of chunk 3's drain loop. -/
theorem drain_trip3 (hO : ∀ g, O g none = 0) (v2 : BitVec 32) (g : Fin k0_t11_loop.trips) (acc : Unit) :
    drainSt m d L xs ns 3 fu fn O W g.val
      ⊢ wp frame (wpE (defs₀ (F := F)) 𝒱₀ (V d (cV L) (jV L)) none) Set.univ
          (k0_t11_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 g acc)
          (fun _ => drainSt m d L xs ns 3 fu fn O W (g.val + 1)) := by
  have hg : g.val < 64 := lt_of_lt_of_le g.isLt k0_t11_abs.2.1
  unfold k0_t11_body
  simp only [k0_part145_eq_skeleton]; unfold k0_part145_skel
  simp only [Prog.lift, Prog.bind_op, Prog.bind_ret, Prog.pure_eq_ret]
  kdrain_proof 3

end Cert.Proof.KTileU

end
-- ==== Proof.KTileUDrainC4.lean ====
import proofs.«218857_g62938450756068_cont_9to1c4b_813_41_alg».proof.Proof.KTileUDrainLoop

noncomputable section

namespace Cert.Proof.KTileU

open Cert.Kernel Cert.Kernel.Gen Cert.Proof.KernelBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))
variable (O : CellTallies nD τ sig (HIx 2)) (W : Waits sig (HIx 2))

set_option maxRecDepth 65536 in
/-- Trip g of chunk 4's drain loop. -/
theorem drain_trip4 (hO : ∀ g, O g none = 0) (v2 : BitVec 32) (g : Fin k0_t14_loop.trips) (acc : Unit) :
    drainSt m d L xs ns 4 fu fn O W g.val
      ⊢ wp frame (wpE (defs₀ (F := F)) 𝒱₀ (V d (cV L) (jV L)) none) Set.univ
          (k0_t14_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 g acc)
          (fun _ => drainSt m d L xs ns 4 fu fn O W (g.val + 1)) := by
  have hg : g.val < 64 := lt_of_lt_of_le g.isLt k0_t14_abs.2.1
  unfold k0_t14_body
  simp only [k0_part182_eq_skeleton]; unfold k0_part182_skel
  simp only [Prog.lift, Prog.bind_op, Prog.bind_ret, Prog.pure_eq_ret]
  kdrain_proof 4

end Cert.Proof.KTileU

end
-- ==== Proof.KTileUDrainC5.lean ====
import proofs.«218857_g62938450756068_cont_9to1c4b_813_41_alg».proof.Proof.KTileUDrainLoop

noncomputable section

namespace Cert.Proof.KTileU

open Cert.Kernel Cert.Kernel.Gen Cert.Proof.KernelBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))
variable (O : CellTallies nD τ sig (HIx 2)) (W : Waits sig (HIx 2))

set_option maxRecDepth 65536 in
/-- Trip g of chunk 5's drain loop. -/
theorem drain_trip5 (hO : ∀ g, O g none = 0) (v2 : BitVec 32) (g : Fin k0_t17_loop.trips) (acc : Unit) :
    drainSt m d L xs ns 5 fu fn O W g.val
      ⊢ wp frame (wpE (defs₀ (F := F)) 𝒱₀ (V d (cV L) (jV L)) none) Set.univ
          (k0_t17_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 g acc)
          (fun _ => drainSt m d L xs ns 5 fu fn O W (g.val + 1)) := by
  have hg : g.val < 64 := lt_of_lt_of_le g.isLt k0_t17_abs.2.1
  unfold k0_t17_body
  simp only [k0_part219_eq_skeleton]; unfold k0_part219_skel
  simp only [Prog.lift, Prog.bind_op, Prog.bind_ret, Prog.pure_eq_ret]
  kdrain_proof 5

end Cert.Proof.KTileU

end
-- ==== Proof.KTileUDrainC6.lean ====
import proofs.«218857_g62938450756068_cont_9to1c4b_813_41_alg».proof.Proof.KTileUDrainLoop

noncomputable section

namespace Cert.Proof.KTileU

open Cert.Kernel Cert.Kernel.Gen Cert.Proof.KernelBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))
variable (O : CellTallies nD τ sig (HIx 2)) (W : Waits sig (HIx 2))

set_option maxRecDepth 65536 in
/-- Trip g of chunk 6's drain loop. -/
theorem drain_trip6 (hO : ∀ g, O g none = 0) (v2 : BitVec 32) (g : Fin k0_t20_loop.trips) (acc : Unit) :
    drainSt m d L xs ns 6 fu fn O W g.val
      ⊢ wp frame (wpE (defs₀ (F := F)) 𝒱₀ (V d (cV L) (jV L)) none) Set.univ
          (k0_t20_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 g acc)
          (fun _ => drainSt m d L xs ns 6 fu fn O W (g.val + 1)) := by
  have hg : g.val < 64 := lt_of_lt_of_le g.isLt k0_t20_abs.2.1
  unfold k0_t20_body
  simp only [k0_part256_eq_skeleton]; unfold k0_part256_skel
  simp only [Prog.lift, Prog.bind_op, Prog.bind_ret, Prog.pure_eq_ret]
  kdrain_proof 6

end Cert.Proof.KTileU

end
-- ==== Proof.KTileUDrainC7.lean ====
import proofs.«218857_g62938450756068_cont_9to1c4b_813_41_alg».proof.Proof.KTileUDrainLoop

noncomputable section

namespace Cert.Proof.KTileU

open Cert.Kernel Cert.Kernel.Gen Cert.Proof.KernelBase
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)
variable (fu : Buf (Elt F) ((V d (cV L) (jV L)).loc cc0_scratch2)) (fn : Buf (Elt F) ((V d (cV L) (jV L)).loc cc0_scratch3))
variable (O : CellTallies nD τ sig (HIx 2)) (W : Waits sig (HIx 2))

set_option maxRecDepth 65536 in
/-- Trip g of chunk 7's drain loop. -/
theorem drain_trip7 (hO : ∀ g, O g none = 0) (v2 : BitVec 32) (g : Fin k0_t23_loop.trips) (acc : Unit) :
    drainSt m d L xs ns 7 fu fn O W g.val
      ⊢ wp frame (wpE (defs₀ (F := F)) 𝒱₀ (V d (cV L) (jV L)) none) Set.univ
          (k0_t23_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 g acc)
          (fun _ => drainSt m d L xs ns 7 fu fn O W (g.val + 1)) := by
  have hg : g.val < 64 := lt_of_lt_of_le g.isLt k0_t23_abs.2.1
  unfold k0_t23_body
  simp only [k0_part293_eq_skeleton]; unfold k0_part293_skel
  simp only [Prog.lift, Prog.bind_op, Prog.bind_ret, Prog.pure_eq_ret]
  kdrain_proof 7

end Cert.Proof.KTileU

end
-- ==== Proof.KTileUElem.lean ====
/-
  One element of a chunk of the first SparseCore kernel: the partial products of one batch element.

  A chunk holds 64 batch elements: row e of the 64-row buffer is the context row u of element e, rows 5 e + k
  (k < 5) of the 320-row buffer are its five negative rows n. The trip for element e of chunk c reads the four
  16-lane pieces of u and of each n and stores, for every k, the sixteen numbers
      0 - (((n0 u0 + n1 u1) + n2 u2) + n3 u3)        (lane l of piece t is entry 16 t + l of the row)
  at entries [80 (64 c + e) + 16 k, + 16) of the subcore's 40960-entry output buffer. The trips fill that buffer
  from the front: before the trip its entries below 80 (64 c + e) hold their values, after it those below
  80 (64 c + e + 1). This module has what the eight chunks share: the value, the state, the lanes of a loaded
  row, the five stores' effect on the buffer, and the trip's proof over the chunk's own names.
-/
import proofs.«218857_g62938450756068_cont_9to1c4b_813_41_alg».proof.Proof.KTileUDefs
import Idealize.ShloMosaic.Lib.Pipeline.Value

noncomputable section

namespace Cert.Proof.KTileU

open Cert.Kernel Cert.Kernel.Gen Cert.Proof.KernelBase

open Idealize.ShloMosaic Idealize.ShloMosaic.ValueIdx
open Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (d : Dev nD) (L : grid0.Coords)

/-- Lane l of the k-th partial product of element e, from the two buffers' contents. -/
def elemVal (FU : S64x64.Idx → F .f32) (FN : S320x64.Idx → F .f32) (e : Fin 64) (k : Fin 5) (l : Fin 16) : F .f32 :=
  FloatOps.subf (Scalar.ofBits .f32 0x00000000#32)
    (FloatOps.addf (FloatOps.addf (FloatOps.addf
      (FloatOps.mulf (FN (ix2 ⟨5 * e.val + k.val, by omega⟩ ⟨l.val, by omega⟩)) (FU (ix2 e ⟨l.val, by omega⟩)))
      (FloatOps.mulf (FN (ix2 ⟨5 * e.val + k.val, by omega⟩ ⟨16 + l.val, by omega⟩)) (FU (ix2 e ⟨16 + l.val, by omega⟩))))
      (FloatOps.mulf (FN (ix2 ⟨5 * e.val + k.val, by omega⟩ ⟨32 + l.val, by omega⟩)) (FU (ix2 e ⟨32 + l.val, by omega⟩))))
      (FloatOps.mulf (FN (ix2 ⟨5 * e.val + k.val, by omega⟩ ⟨48 + l.val, by omega⟩)) (FU (ix2 e ⟨48 + l.val, by omega⟩))))

/-- The two row buffers held whole at their contents, and the output buffer whole at contents that agree with
    `G` on the entries below `n`. -/
def elemSt (FU : Buf (Elt F) ((V d (cV L) (jV L)).loc cc0_scratch2)) (FN : Buf (Elt F) ((V d (cV L) (jV L)).loc cc0_scratch3))
    (G : S40960.Idx → F .f32) (n : ℕ) : sProp 𝕄 :=
  iprop(((Memref.whole cc0_scratch2 : Memref sig .scVector .vmem S64x64 .f32).view.loc (V d (cV L) (jV L)) ↦{fullShare} FU)
    ∗ ((Memref.whole cc0_scratch3 : Memref sig .scVector .vmem S320x64 .f32).view.loc (V d (cV L) (jV L)) ↦{fullShare} FN)
    ∗ ∃ fp : Buf (Elt F) ((V d (cV L) (jV L)).loc cc0_scratch4), ⌜∀ p : S40960.Idx, (p 0).val < n → fp p = G p⌝
        ∗ ((Memref.whole cc0_scratch4 : Memref sig .scVector .vmem S40960 .f32).view.loc (V d (cV L) (jV L)) ↦{fullShare} fp))

/-! ## Lanes of loaded rows -/

/-- Lane l of a 1 × 16 row read as sixteen lanes. -/
theorem cast16 (v : Vec F S1x16 .f32) (l : Fin 16) : shapeCast S16 v shapeCasts_S1x16_S16 (ix1 l) = v (ix2 0 l) :=
  shapeCast_apply v _ (ix1 l) (ix2 0 l) (by rw [Shape.rowMajor_val_two, Shape.rowMajor_val_one]; show 0 * 16 + l.val = l.val; omega)

omit [FloatOps F] in
/-- Sixteen lanes loaded at row r, column c of the 64-row buffer: lane l is entry (r, c + l). -/
theorem readU (FU : Buf (Elt F) ((V d (cV L) (jV L)).loc cc0_scratch2)) (off : Fin 2 → ℕ) (inb : ∀ a, off a + S1x16.size a ≤ S64x64.size a)
    (r c : ℕ) (hoff : off = ![r, c]) (hr : r < 64) (hc : c + 16 ≤ 64) (l : Fin 16) :
    View.readAt (Elt F) (Memref.whole cc0_scratch2 : Memref sig .scVector .vmem S64x64 .f32).view (Rect.unit (s := S64x64) off S1x16.size inb).toLoadRect FU (ix2 0 l)
      = (FU : S64x64.Idx → F .f32) (ix2 ⟨r, hr⟩ ⟨c + l.val, by omega⟩) := by
  subst hoff
  show (FU : S64x64.Idx → F .f32) _ = _
  congr 1
  funext a; apply Fin.ext
  match a with
  | ⟨0, _⟩ => show r + 1 * 0 = r; omega
  | ⟨1, _⟩ => show c + 1 * l.val = c + l.val; omega

omit [FloatOps F] in
/-- The same in the 320-row buffer. -/
theorem readN (FN : Buf (Elt F) ((V d (cV L) (jV L)).loc cc0_scratch3)) (off : Fin 2 → ℕ) (inb : ∀ a, off a + S1x16.size a ≤ S320x64.size a)
    (r c : ℕ) (hoff : off = ![r, c]) (hr : r < 320) (hc : c + 16 ≤ 64) (l : Fin 16) :
    View.readAt (Elt F) (Memref.whole cc0_scratch3 : Memref sig .scVector .vmem S320x64 .f32).view (Rect.unit (s := S320x64) off S1x16.size inb).toLoadRect FN (ix2 0 l)
      = (FN : S320x64.Idx → F .f32) (ix2 ⟨r, hr⟩ ⟨c + l.val, by omega⟩) := by
  subst hoff
  show (FN : S320x64.Idx → F .f32) _ = _
  congr 1
  funext a; apply Fin.ext
  match a with
  | ⟨0, _⟩ => show r + 1 * 0 = r; omega
  | ⟨1, _⟩ => show c + 1 * l.val = c + l.val; omega

/-! ## The output buffer after the five stores -/

/-- Five 16-entry stores at b, b + 16, …, b + 64 whose lanes are `G`'s values extend a buffer that agrees with `G`
    below b to one that agrees with it below b + 80. -/
theorem fill80 (b : ℕ) (fp : Buf (Elt F) ((V d (cV L) (jV L)).loc cc0_scratch4)) (G : S40960.Idx → F .f32)
    (off0 off1 off2 off3 off4 : Fin 1 → ℕ)
    (inb0 : ∀ a, off0 a + S16.size a ≤ S40960.size a) (inb1 : ∀ a, off1 a + S16.size a ≤ S40960.size a)
    (inb2 : ∀ a, off2 a + S16.size a ≤ S40960.size a) (inb3 : ∀ a, off3 a + S16.size a ≤ S40960.size a)
    (inb4 : ∀ a, off4 a + S16.size a ≤ S40960.size a)
    (b0 b1 b2 b3 b4 : ℕ) (o0 : off0 = ![b0]) (o1 : off1 = ![b1]) (o2 : off2 = ![b2]) (o3 : off3 = ![b3]) (o4 : off4 = ![b4])
    (e0 : b0 = b + 16 * 0) (e1 : b1 = b + 16 * 1) (e2 : b2 = b + 16 * 2) (e3 : b3 = b + 16 * 3) (e4 : b4 = b + 16 * 4)
    (w0 w1 w2 w3 w4 : FVec F S16 .f32)
    (hfp : ∀ p : S40960.Idx, (p 0).val < b → fp p = G p)
    (hw0 : ∀ (l : Fin 16) (h : b + 16 * 0 + l.val < 40960), w0 (ix1 l) = G (ix1 ⟨b + 16 * 0 + l.val, h⟩))
    (hw1 : ∀ (l : Fin 16) (h : b + 16 * 1 + l.val < 40960), w1 (ix1 l) = G (ix1 ⟨b + 16 * 1 + l.val, h⟩))
    (hw2 : ∀ (l : Fin 16) (h : b + 16 * 2 + l.val < 40960), w2 (ix1 l) = G (ix1 ⟨b + 16 * 2 + l.val, h⟩))
    (hw3 : ∀ (l : Fin 16) (h : b + 16 * 3 + l.val < 40960), w3 (ix1 l) = G (ix1 ⟨b + 16 * 3 + l.val, h⟩))
    (hw4 : ∀ (l : Fin 16) (h : b + 16 * 4 + l.val < 40960), w4 (ix1 l) = G (ix1 ⟨b + 16 * 4 + l.val, h⟩))
    (p : S40960.Idx) (hp : (p 0).val < b + 80) :
    (Memref.whole cc0_scratch4 : Memref sig .scVector .vmem S40960 .f32).view.writes (Elt F) fp
      [⟨Rect.unit (s := S40960) off4 S16.size inb4, w4⟩, ⟨Rect.unit (s := S40960) off3 S16.size inb3, w3⟩,
       ⟨Rect.unit (s := S40960) off2 S16.size inb2, w2⟩, ⟨Rect.unit (s := S40960) off1 S16.size inb1, w1⟩,
       ⟨Rect.unit (s := S40960) off0 S16.size inb0, w0⟩] p = G p := by
  subst o0 o1 o2 o3 o4 e1 e2 e3 e4
  have e0' : b = b0 := by omega
  subst e0'
  -- membership in a store's sixteen entries, by arithmetic on the one coordinate
  have mem : ∀ (c : ℕ) (inb : ∀ a, (![c] : Fin 1 → ℕ) a + S16.size a ≤ S40960.size a),
      (p ∈ (Rect.unit (s := S40960) ![c] S16.size inb).set ↔ c ≤ (p 0).val ∧ (p 0).val < c + 16) := by
    intro c inb
    rw [Rect.mem_set_unit]
    constructor
    · intro h; exact h 0
    · intro h a; match a with | ⟨0, _⟩ => exact h
  have rd : ∀ g : Buf (Elt F) ((V d (cV L) (jV L)).loc cc0_scratch4),
      View.read (Elt F) (Memref.whole cc0_scratch4 : Memref sig .scVector .vmem S40960 .f32).view g p = g p := fun _ => rfl
  refine (rd _).symm.trans ?_
  by_cases hlt : (p 0).val < b
  · refine (View.read_writes_apply_of_forall_not_mem (Memref.whole cc0_scratch4 : Memref sig .scVector .vmem S40960 .f32).view fp p _ ?_).trans (hfp p hlt)
    intro q hq
    simp only [List.mem_cons, List.not_mem_nil, _root_.or_false] at hq
    rcases hq with rfl | rfl | rfl | rfl | rfl
    · exact fun h => by have := (mem _ inb4).mp h; omega
    · exact fun h => by have := (mem _ inb3).mp h; omega
    · exact fun h => by have := (mem _ inb2).mp h; omega
    · exact fun h => by have := (mem _ inb1).mp h; omega
    · exact fun h => by have := (mem _ inb0).mp h; omega
  · refine View.read_writes_apply_of_pieces (Memref.whole cc0_scratch4 : Memref sig .scVector .vmem S40960 .f32).view fp G _ ?_ p ?_
    · -- every store's lanes are G's values
      have lane : ∀ (c : ℕ) (inb : ∀ a, (![c] : Fin 1 → ℕ) a + S16.size a ≤ S40960.size a) (w : FVec F S16 .f32),
          (∀ (l : Fin 16) (h : c + l.val < 40960), w (ix1 l) = G (ix1 ⟨c + l.val, h⟩)) →
          ∀ x : (Rect.unit (s := S40960) ![c] S16.size inb).shape.Idx, w x = G ((Rect.unit (s := S40960) ![c] S16.size inb).emb x) := by
        intro c inb w hw x
        obtain ⟨l, rfl⟩ : ∃ l : Fin 16, x = ix1 l := ⟨x 0, eq_ix1 x⟩
        have h0 : c + 16 ≤ 40960 := inb 0
        have hlt : c + l.val < 40960 := by have := l.isLt; omega
        rw [hw l hlt]
        congr 1
        funext a; apply Fin.ext
        match a with | ⟨0, _⟩ => show c + l.val = c + 1 * l.val; omega
      intro q hq
      simp only [List.mem_cons, List.not_mem_nil, _root_.or_false] at hq
      rcases hq with rfl | rfl | rfl | rfl | rfl
      · exact lane _ inb4 w4 hw4
      · exact lane _ inb3 w3 hw3
      · exact lane _ inb2 w2 hw2
      · exact lane _ inb1 w1 hw1
      · exact lane _ inb0 w0 hw0
    · -- the entry lies in one of the five stores
      have h5 : (p 0).val < b + 16 ∨ (b + 16 ≤ (p 0).val ∧ (p 0).val < b + 32) ∨ (b + 32 ≤ (p 0).val ∧ (p 0).val < b + 48)
          ∨ (b + 48 ≤ (p 0).val ∧ (p 0).val < b + 64) ∨ b + 64 ≤ (p 0).val := by omega
      rcases h5 with h | h | h | h | h
      · exact ⟨_, .tail _ (.tail _ (.tail _ (.tail _ (.head _)))), (mem _ inb0).mpr (by omega)⟩
      · exact ⟨_, .tail _ (.tail _ (.tail _ (.head _))), (mem _ inb1).mpr (by omega)⟩
      · exact ⟨_, .tail _ (.tail _ (.head _)), (mem _ inb2).mpr (by omega)⟩
      · exact ⟨_, .tail _ (.head _), (mem _ inb3).mpr (by omega)⟩
      · exact ⟨_, .head _, (mem _ inb4).mpr (by omega)⟩

/-! ## The stored value at a lane -/

/-- The partial product of four lane pairs: 0 - (((n0 u0 + n1 u1) + n2 u2) + n3 u3). -/
def dot4 (n0 u0 n1 u1 n2 u2 n3 u3 : F .f32) : F .f32 :=
  FloatOps.subf (Scalar.ofBits .f32 0x00000000#32)
    (FloatOps.addf (FloatOps.addf (FloatOps.addf (FloatOps.mulf n0 u0) (FloatOps.mulf n1 u1)) (FloatOps.mulf n2 u2)) (FloatOps.mulf n3 u3))

/-- The value of element e's k-th partial product at lane l, from the four pieces of the two rows as loaded: the
    loads' offsets are row e at columns 0, 16, 32, 48 of the 64-row buffer and row 5 e + k of the 320-row buffer. -/
theorem elemVal_eq (FU : Buf (Elt F) ((V d (cV L) (jV L)).loc cc0_scratch2)) (FN : Buf (Elt F) ((V d (cV L) (jV L)).loc cc0_scratch3))
    (e : Fin 64) (k : Fin 5) (l : Fin 16)
    (oU0 oU1 oU2 oU3 oN0 oN1 oN2 oN3 : Fin 2 → ℕ)
    (iU0 : ∀ a, oU0 a + S1x16.size a ≤ S64x64.size a) (iU1 : ∀ a, oU1 a + S1x16.size a ≤ S64x64.size a)
    (iU2 : ∀ a, oU2 a + S1x16.size a ≤ S64x64.size a) (iU3 : ∀ a, oU3 a + S1x16.size a ≤ S64x64.size a)
    (iN0 : ∀ a, oN0 a + S1x16.size a ≤ S320x64.size a) (iN1 : ∀ a, oN1 a + S1x16.size a ≤ S320x64.size a)
    (iN2 : ∀ a, oN2 a + S1x16.size a ≤ S320x64.size a) (iN3 : ∀ a, oN3 a + S1x16.size a ≤ S320x64.size a)
    (hU0 : oU0 = ![e.val, 0]) (hU1 : oU1 = ![e.val, 16]) (hU2 : oU2 = ![e.val, 32]) (hU3 : oU3 = ![e.val, 48])
    (hN0 : oN0 = ![5 * e.val + k.val, 0]) (hN1 : oN1 = ![5 * e.val + k.val, 16])
    (hN2 : oN2 = ![5 * e.val + k.val, 32]) (hN3 : oN3 = ![5 * e.val + k.val, 48]) :
    dot4
      (View.readAt (Elt F) (Memref.whole cc0_scratch3 : Memref sig .scVector .vmem S320x64 .f32).view (Rect.unit (s := S320x64) oN0 S1x16.size iN0).toLoadRect FN (ix2 0 l))
      (View.readAt (Elt F) (Memref.whole cc0_scratch2 : Memref sig .scVector .vmem S64x64 .f32).view (Rect.unit (s := S64x64) oU0 S1x16.size iU0).toLoadRect FU (ix2 0 l))
      (View.readAt (Elt F) (Memref.whole cc0_scratch3 : Memref sig .scVector .vmem S320x64 .f32).view (Rect.unit (s := S320x64) oN1 S1x16.size iN1).toLoadRect FN (ix2 0 l))
      (View.readAt (Elt F) (Memref.whole cc0_scratch2 : Memref sig .scVector .vmem S64x64 .f32).view (Rect.unit (s := S64x64) oU1 S1x16.size iU1).toLoadRect FU (ix2 0 l))
      (View.readAt (Elt F) (Memref.whole cc0_scratch3 : Memref sig .scVector .vmem S320x64 .f32).view (Rect.unit (s := S320x64) oN2 S1x16.size iN2).toLoadRect FN (ix2 0 l))
      (View.readAt (Elt F) (Memref.whole cc0_scratch2 : Memref sig .scVector .vmem S64x64 .f32).view (Rect.unit (s := S64x64) oU2 S1x16.size iU2).toLoadRect FU (ix2 0 l))
      (View.readAt (Elt F) (Memref.whole cc0_scratch3 : Memref sig .scVector .vmem S320x64 .f32).view (Rect.unit (s := S320x64) oN3 S1x16.size iN3).toLoadRect FN (ix2 0 l))
      (View.readAt (Elt F) (Memref.whole cc0_scratch2 : Memref sig .scVector .vmem S64x64 .f32).view (Rect.unit (s := S64x64) oU3 S1x16.size iU3).toLoadRect FU (ix2 0 l))
      = elemVal FU FN e k l := by
  have hk := k.isLt
  have he := e.isLt
  rw [readN d L FN _ _ _ 0 hN0 (by omega) (by omega) l, readN d L FN _ _ _ 16 hN1 (by omega) (by omega) l,
    readN d L FN _ _ _ 32 hN2 (by omega) (by omega) l, readN d L FN _ _ _ 48 hN3 (by omega) (by omega) l,
    readU d L FU _ _ _ 0 hU0 he (by omega) l, readU d L FU _ _ _ 16 hU1 he (by omega) l,
    readU d L FU _ _ _ 32 hU2 he (by omega) l, readU d L FU _ _ _ 48 hU3 he (by omega) l]
  unfold elemVal dot4
  simp only [Nat.zero_add]

/-! ## The trip's proof, once for the eight chunks

The eight chunks' trips are the same text over their own names for the loop, the nine offset functions and the
twelve stored or carried vectors: the proof takes those names. `c` is the chunk's number. -/

set_option hygiene false in
/-- The element trip of chunk `c`: run the trip, then the five stores extend the filled part of the output buffer by
    the element's eighty values. -/
macro "kelem_proof" c:num abs:ident body:ident
    uq0:ident uq1:ident uq2:ident uq3:ident nq0:ident nq1:ident nq2:ident nq3:ident sq:ident sinb:ident
    p104:ident p105:ident p106:ident p107:ident p108:ident p109:ident p110:ident p111:ident p112:ident p113:ident p114:ident p900:ident : tactic =>
  `(tactic| (
    have he : e.val < 64 := Nat.lt_of_lt_of_le e.isLt ($abs).2.1
    unfold elemSt
    unfold $body
    iintro ⟨HU, HN, %fp, %hfp, Hp⟩
    sl_exec
    sl_step
    isplitl [HU]; · iexact HU
    isplitl [HN]; · iexact HN
    iexists _; isplitr; swap; (· iexact Hp)
    ipureintro
    sl_unfold_run_names
    intro p hp
    refine fill80 d L (80 * (64 * $c + e.val)) fp G _ _ _ _ _ ($sinb e 0) ($sinb e 1) ($sinb e 2) ($sinb e 3) ($sinb e 4) _ _ _ _ _
      ($sq e ⟨0, by decide⟩) ($sq e ⟨1, by decide⟩) ($sq e ⟨2, by decide⟩) ($sq e ⟨3, by decide⟩) ($sq e ⟨4, by decide⟩)
      (by first | omega | (simp only [Fin.val_mk]; omega)) (by first | omega | (simp only [Fin.val_mk]; omega)) (by first | omega | (simp only [Fin.val_mk]; omega)) (by first | omega | (simp only [Fin.val_mk]; omega)) (by first | omega | (simp only [Fin.val_mk]; omega))
      _ _ _ _ _ hfp ?_ ?_ ?_ ?_ ?_ p (by omega)
    all_goals (
      intro l h
      simp only [$p104:ident, $p105:ident, $p106:ident, $p107:ident, $p108:ident, $p109:ident, $p110:ident, $p111:ident, $p112:ident, $p113:ident,
        $p114:ident, $p900:ident, shapeCast_self, mulf, addf, subf, broadcast]
      repeat rw [cast16])
    · exact (elemVal_eq d L FU FN ⟨e.val, he⟩ ⟨0, by decide⟩ l _ _ _ _ _ _ _ _ _ _ _ _ _ _ _ _ ($uq0 e) ($uq1 e) ($uq2 e) ($uq3 e)
        ($nq0 e ⟨0, by decide⟩) ($nq1 e ⟨0, by decide⟩) ($nq2 e ⟨0, by decide⟩) ($nq3 e ⟨0, by decide⟩)).trans (hG ⟨e.val, he⟩ ⟨0, by decide⟩ l).symm
    · exact (elemVal_eq d L FU FN ⟨e.val, he⟩ ⟨1, by decide⟩ l _ _ _ _ _ _ _ _ _ _ _ _ _ _ _ _ ($uq0 e) ($uq1 e) ($uq2 e) ($uq3 e)
        ($nq0 e ⟨1, by decide⟩) ($nq1 e ⟨1, by decide⟩) ($nq2 e ⟨1, by decide⟩) ($nq3 e ⟨1, by decide⟩)).trans (hG ⟨e.val, he⟩ ⟨1, by decide⟩ l).symm
    · exact (elemVal_eq d L FU FN ⟨e.val, he⟩ ⟨2, by decide⟩ l _ _ _ _ _ _ _ _ _ _ _ _ _ _ _ _ ($uq0 e) ($uq1 e) ($uq2 e) ($uq3 e)
        ($nq0 e ⟨2, by decide⟩) ($nq1 e ⟨2, by decide⟩) ($nq2 e ⟨2, by decide⟩) ($nq3 e ⟨2, by decide⟩)).trans (hG ⟨e.val, he⟩ ⟨2, by decide⟩ l).symm
    · exact (elemVal_eq d L FU FN ⟨e.val, he⟩ ⟨3, by decide⟩ l _ _ _ _ _ _ _ _ _ _ _ _ _ _ _ _ ($uq0 e) ($uq1 e) ($uq2 e) ($uq3 e)
        ($nq0 e ⟨3, by decide⟩) ($nq1 e ⟨3, by decide⟩) ($nq2 e ⟨3, by decide⟩) ($nq3 e ⟨3, by decide⟩)).trans (hG ⟨e.val, he⟩ ⟨3, by decide⟩ l).symm
    · exact (elemVal_eq d L FU FN ⟨e.val, he⟩ ⟨4, by decide⟩ l _ _ _ _ _ _ _ _ _ _ _ _ _ _ _ _ ($uq0 e) ($uq1 e) ($uq2 e) ($uq3 e)
        ($nq0 e ⟨4, by decide⟩) ($nq1 e ⟨4, by decide⟩) ($nq2 e ⟨4, by decide⟩) ($nq3 e ⟨4, by decide⟩)).trans (hG ⟨e.val, he⟩ ⟨4, by decide⟩ l).symm))

end Cert.Proof.KTileU

end
-- ==== Proof.KTileUElemC0.lean ====
/-
  The element trip of chunk 0 of the first SparseCore kernel: the trip for element e stores the element's eighty
  partial products at entries [80 (64 · 0 + e), + 80) of the output buffer, extending its filled part.
-/
import proofs.«218857_g62938450756068_cont_9to1c4b_813_41_alg».proof.Proof.KTileUElem

noncomputable section

namespace Cert.Proof.KTileU

open Cert.Kernel Cert.Kernel.Gen Cert.Proof.KernelBase

open Idealize.ShloMosaic Idealize.ShloMosaic.ValueIdx
open Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (d : Dev nD) (L : grid0.Coords)

set_option maxHeartbeats 4000000 in
theorem elem_trip0 (FU : Buf (Elt F) ((V d (cV L) (jV L)).loc cc0_scratch2)) (FN : Buf (Elt F) ((V d (cV L) (jV L)).loc cc0_scratch3))
    (G : S40960.Idx → F .f32)
    (hG : ∀ (e : Fin 64) (k : Fin 5) (l : Fin 16), G (ix1 ⟨80 * (64 * 0 + e.val) + 16 * k.val + l.val, by omega⟩) = elemVal FU FN e k l)
    (v2 : BitVec 32) (e : Fin k0_t3_loop.trips) (acc : Unit) :
    elemSt d L FU FN G (80 * (64 * 0 + e.val))
      ⊢ wp frame (wpE (defs₀ (F := F)) 𝒱₀ (V d (cV L) (jV L)) none) Set.univ
          (k0_t3_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 e acc)
          (fun _ => elemSt d L FU FN G (80 * (64 * 0 + (e.val + 1)))) := by
  kelem_proof 0 k0_t3_abs k0_t3_body k0_off229_eq k0_off230_eq k0_off231_eq k0_off232_eq k0_off233_eq k0_off234_eq k0_off235_eq k0_off236_eq k0_off237_eq k0_off237_inb k0_pay104 k0_pay105 k0_pay106 k0_pay107 k0_pay108 k0_pay109 k0_pay110 k0_pay111 k0_pay112 k0_pay113 k0_pay114 k0_pay900

end Cert.Proof.KTileU

end
-- ==== Proof.KTileUElemC1.lean ====
/-
  The element trip of chunk 1 of the first SparseCore kernel: the trip for element e stores the element's eighty
  partial products at entries [80 (64 · 1 + e), + 80) of the output buffer, extending its filled part.
-/
import proofs.«218857_g62938450756068_cont_9to1c4b_813_41_alg».proof.Proof.KTileUElem

noncomputable section

namespace Cert.Proof.KTileU

open Cert.Kernel Cert.Kernel.Gen Cert.Proof.KernelBase

open Idealize.ShloMosaic Idealize.ShloMosaic.ValueIdx
open Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (d : Dev nD) (L : grid0.Coords)

set_option maxHeartbeats 4000000 in
theorem elem_trip1 (FU : Buf (Elt F) ((V d (cV L) (jV L)).loc cc0_scratch2)) (FN : Buf (Elt F) ((V d (cV L) (jV L)).loc cc0_scratch3))
    (G : S40960.Idx → F .f32)
    (hG : ∀ (e : Fin 64) (k : Fin 5) (l : Fin 16), G (ix1 ⟨80 * (64 * 1 + e.val) + 16 * k.val + l.val, by omega⟩) = elemVal FU FN e k l)
    (v2 : BitVec 32) (e : Fin k0_t6_loop.trips) (acc : Unit) :
    elemSt d L FU FN G (80 * (64 * 1 + e.val))
      ⊢ wp frame (wpE (defs₀ (F := F)) 𝒱₀ (V d (cV L) (jV L)) none) Set.univ
          (k0_t6_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 e acc)
          (fun _ => elemSt d L FU FN G (80 * (64 * 1 + (e.val + 1)))) := by
  kelem_proof 1 k0_t6_abs k0_t6_body k0_off465_eq k0_off466_eq k0_off467_eq k0_off468_eq k0_off469_eq k0_off470_eq k0_off471_eq k0_off472_eq k0_off473_eq k0_off473_inb k0_pay216 k0_pay217 k0_pay218 k0_pay219 k0_pay220 k0_pay221 k0_pay222 k0_pay223 k0_pay224 k0_pay225 k0_pay226 k0_pay902

end Cert.Proof.KTileU

end
-- ==== Proof.KTileUElemC2.lean ====
/-
  The element trip of chunk 2 of the first SparseCore kernel: the trip for element e stores the element's eighty
  partial products at entries [80 (64 · 2 + e), + 80) of the output buffer, extending its filled part.
-/
import proofs.«218857_g62938450756068_cont_9to1c4b_813_41_alg».proof.Proof.KTileUElem

noncomputable section

namespace Cert.Proof.KTileU

open Cert.Kernel Cert.Kernel.Gen Cert.Proof.KernelBase

open Idealize.ShloMosaic Idealize.ShloMosaic.ValueIdx
open Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (d : Dev nD) (L : grid0.Coords)

set_option maxHeartbeats 4000000 in
theorem elem_trip2 (FU : Buf (Elt F) ((V d (cV L) (jV L)).loc cc0_scratch2)) (FN : Buf (Elt F) ((V d (cV L) (jV L)).loc cc0_scratch3))
    (G : S40960.Idx → F .f32)
    (hG : ∀ (e : Fin 64) (k : Fin 5) (l : Fin 16), G (ix1 ⟨80 * (64 * 2 + e.val) + 16 * k.val + l.val, by omega⟩) = elemVal FU FN e k l)
    (v2 : BitVec 32) (e : Fin k0_t9_loop.trips) (acc : Unit) :
    elemSt d L FU FN G (80 * (64 * 2 + e.val))
      ⊢ wp frame (wpE (defs₀ (F := F)) 𝒱₀ (V d (cV L) (jV L)) none) Set.univ
          (k0_t9_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 e acc)
          (fun _ => elemSt d L FU FN G (80 * (64 * 2 + (e.val + 1)))) := by
  kelem_proof 2 k0_t9_abs k0_t9_body k0_off700_eq k0_off701_eq k0_off702_eq k0_off703_eq k0_off704_eq k0_off705_eq k0_off706_eq k0_off707_eq k0_off708_eq k0_off708_inb k0_pay328 k0_pay329 k0_pay330 k0_pay331 k0_pay332 k0_pay333 k0_pay334 k0_pay335 k0_pay336 k0_pay337 k0_pay338 k0_pay904

end Cert.Proof.KTileU

end
-- ==== Proof.KTileUElemC3.lean ====
/-
  The element trip of chunk 3 of the first SparseCore kernel: the trip for element e stores the element's eighty
  partial products at entries [80 (64 · 3 + e), + 80) of the output buffer, extending its filled part.
-/
import proofs.«218857_g62938450756068_cont_9to1c4b_813_41_alg».proof.Proof.KTileUElem

noncomputable section

namespace Cert.Proof.KTileU

open Cert.Kernel Cert.Kernel.Gen Cert.Proof.KernelBase

open Idealize.ShloMosaic Idealize.ShloMosaic.ValueIdx
open Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (d : Dev nD) (L : grid0.Coords)

set_option maxHeartbeats 4000000 in
theorem elem_trip3 (FU : Buf (Elt F) ((V d (cV L) (jV L)).loc cc0_scratch2)) (FN : Buf (Elt F) ((V d (cV L) (jV L)).loc cc0_scratch3))
    (G : S40960.Idx → F .f32)
    (hG : ∀ (e : Fin 64) (k : Fin 5) (l : Fin 16), G (ix1 ⟨80 * (64 * 3 + e.val) + 16 * k.val + l.val, by omega⟩) = elemVal FU FN e k l)
    (v2 : BitVec 32) (e : Fin k0_t12_loop.trips) (acc : Unit) :
    elemSt d L FU FN G (80 * (64 * 3 + e.val))
      ⊢ wp frame (wpE (defs₀ (F := F)) 𝒱₀ (V d (cV L) (jV L)) none) Set.univ
          (k0_t12_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 e acc)
          (fun _ => elemSt d L FU FN G (80 * (64 * 3 + (e.val + 1)))) := by
  kelem_proof 3 k0_t12_abs k0_t12_body k0_off935_eq k0_off936_eq k0_off937_eq k0_off938_eq k0_off939_eq k0_off940_eq k0_off941_eq k0_off942_eq k0_off943_eq k0_off943_inb k0_pay440 k0_pay441 k0_pay442 k0_pay443 k0_pay444 k0_pay445 k0_pay446 k0_pay447 k0_pay448 k0_pay449 k0_pay450 k0_pay906

end Cert.Proof.KTileU

end
-- ==== Proof.KTileUElemC4.lean ====
/-
  The element trip of chunk 4 of the first SparseCore kernel: the trip for element e stores the element's eighty
  partial products at entries [80 (64 · 4 + e), + 80) of the output buffer, extending its filled part.
-/
import proofs.«218857_g62938450756068_cont_9to1c4b_813_41_alg».proof.Proof.KTileUElem

noncomputable section

namespace Cert.Proof.KTileU

open Cert.Kernel Cert.Kernel.Gen Cert.Proof.KernelBase

open Idealize.ShloMosaic Idealize.ShloMosaic.ValueIdx
open Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (d : Dev nD) (L : grid0.Coords)

set_option maxHeartbeats 4000000 in
theorem elem_trip4 (FU : Buf (Elt F) ((V d (cV L) (jV L)).loc cc0_scratch2)) (FN : Buf (Elt F) ((V d (cV L) (jV L)).loc cc0_scratch3))
    (G : S40960.Idx → F .f32)
    (hG : ∀ (e : Fin 64) (k : Fin 5) (l : Fin 16), G (ix1 ⟨80 * (64 * 4 + e.val) + 16 * k.val + l.val, by omega⟩) = elemVal FU FN e k l)
    (v2 : BitVec 32) (e : Fin k0_t15_loop.trips) (acc : Unit) :
    elemSt d L FU FN G (80 * (64 * 4 + e.val))
      ⊢ wp frame (wpE (defs₀ (F := F)) 𝒱₀ (V d (cV L) (jV L)) none) Set.univ
          (k0_t15_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 e acc)
          (fun _ => elemSt d L FU FN G (80 * (64 * 4 + (e.val + 1)))) := by
  kelem_proof 4 k0_t15_abs k0_t15_body k0_off1170_eq k0_off1171_eq k0_off1172_eq k0_off1173_eq k0_off1174_eq k0_off1175_eq k0_off1176_eq k0_off1177_eq k0_off1178_eq k0_off1178_inb k0_pay552 k0_pay553 k0_pay554 k0_pay555 k0_pay556 k0_pay557 k0_pay558 k0_pay559 k0_pay560 k0_pay561 k0_pay562 k0_pay908

end Cert.Proof.KTileU

end
-- ==== Proof.KTileUElemC5.lean ====
/-
  The element trip of chunk 5 of the first SparseCore kernel: the trip for element e stores the element's eighty
  partial products at entries [80 (64 · 5 + e), + 80) of the output buffer, extending its filled part.
-/
import proofs.«218857_g62938450756068_cont_9to1c4b_813_41_alg».proof.Proof.KTileUElem

noncomputable section

namespace Cert.Proof.KTileU

open Cert.Kernel Cert.Kernel.Gen Cert.Proof.KernelBase

open Idealize.ShloMosaic Idealize.ShloMosaic.ValueIdx
open Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (d : Dev nD) (L : grid0.Coords)

set_option maxHeartbeats 4000000 in
theorem elem_trip5 (FU : Buf (Elt F) ((V d (cV L) (jV L)).loc cc0_scratch2)) (FN : Buf (Elt F) ((V d (cV L) (jV L)).loc cc0_scratch3))
    (G : S40960.Idx → F .f32)
    (hG : ∀ (e : Fin 64) (k : Fin 5) (l : Fin 16), G (ix1 ⟨80 * (64 * 5 + e.val) + 16 * k.val + l.val, by omega⟩) = elemVal FU FN e k l)
    (v2 : BitVec 32) (e : Fin k0_t18_loop.trips) (acc : Unit) :
    elemSt d L FU FN G (80 * (64 * 5 + e.val))
      ⊢ wp frame (wpE (defs₀ (F := F)) 𝒱₀ (V d (cV L) (jV L)) none) Set.univ
          (k0_t18_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 e acc)
          (fun _ => elemSt d L FU FN G (80 * (64 * 5 + (e.val + 1)))) := by
  kelem_proof 5 k0_t18_abs k0_t18_body k0_off1405_eq k0_off1406_eq k0_off1407_eq k0_off1408_eq k0_off1409_eq k0_off1410_eq k0_off1411_eq k0_off1412_eq k0_off1413_eq k0_off1413_inb k0_pay664 k0_pay665 k0_pay666 k0_pay667 k0_pay668 k0_pay669 k0_pay670 k0_pay671 k0_pay672 k0_pay673 k0_pay674 k0_pay910

end Cert.Proof.KTileU

end
-- ==== Proof.KTileUElemC6.lean ====
/-
  The element trip of chunk 6 of the first SparseCore kernel: the trip for element e stores the element's eighty
  partial products at entries [80 (64 · 6 + e), + 80) of the output buffer, extending its filled part.
-/
import proofs.«218857_g62938450756068_cont_9to1c4b_813_41_alg».proof.Proof.KTileUElem

noncomputable section

namespace Cert.Proof.KTileU

open Cert.Kernel Cert.Kernel.Gen Cert.Proof.KernelBase

open Idealize.ShloMosaic Idealize.ShloMosaic.ValueIdx
open Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (d : Dev nD) (L : grid0.Coords)

set_option maxHeartbeats 4000000 in
theorem elem_trip6 (FU : Buf (Elt F) ((V d (cV L) (jV L)).loc cc0_scratch2)) (FN : Buf (Elt F) ((V d (cV L) (jV L)).loc cc0_scratch3))
    (G : S40960.Idx → F .f32)
    (hG : ∀ (e : Fin 64) (k : Fin 5) (l : Fin 16), G (ix1 ⟨80 * (64 * 6 + e.val) + 16 * k.val + l.val, by omega⟩) = elemVal FU FN e k l)
    (v2 : BitVec 32) (e : Fin k0_t21_loop.trips) (acc : Unit) :
    elemSt d L FU FN G (80 * (64 * 6 + e.val))
      ⊢ wp frame (wpE (defs₀ (F := F)) 𝒱₀ (V d (cV L) (jV L)) none) Set.univ
          (k0_t21_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 v2 e acc)
          (fun _ => elemSt d L FU FN G (80 * (64 * 6 + (e.val + 1)))) := by
  kelem_proof 6 k0_t21_abs k0_t21_body k0_off1640_eq k0_off1641_eq k0_off1642_eq k0_off1643_eq k0_off1644_eq k0_off1645_eq k0_off1646_eq k0_off1647_eq k0_off1648_eq k0_off1648_inb k0_pay776 k0_pay777 k0_pay778 k0_pay779 k0_pay780 k0_pay781 k0_pay782 k0_pay783 k0_pay784 k0_pay785 k0_pay786 k0_pay912

end Cert.Proof.KTileU

end
-- ==== Proof.KTileUElemC7.lean ====
/-
  The element trip of chunk 7 of the first SparseCore kernel: the trip for element e stores the element's eighty
  partial products at entries [80 (64 · 7 + e), + 80) of the output buffer, extending its filled part.
-/
import proofs.«218857_g62938450756068_cont_9to1c4b_813_41_alg».proof.Proof.KTileUElem

noncomputable section

namespace Cert.Proof.KTileU

open Cert.Kernel Cert.Kernel.Gen Cert.Proof.KernelBase

open Idealize.ShloMosaic Idealize.ShloMosaic.ValueIdx
open Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (d : Dev nD) (L : grid0.Coords)

set_option maxHeartbeats 4000000 in
theorem elem_trip7 (FU : Buf (Elt F) ((V d (cV L) (jV L)).loc cc0_scratch2)) (FN : Buf (Elt F) ((V d (cV L) (jV L)).loc cc0_scratch3))
    (G : S40960.Idx → F .f32)
    (hG : ∀ (e : Fin 64) (k : Fin 5) (l : Fin 16), G (ix1 ⟨80 * (64 * 7 + e.val) + 16 * k.val + l.val, by omega⟩) = elemVal FU FN e k l)
    (v2 : BitVec 32) (e : Fin k0_t24_loop.trips) (acc : Unit) :
    elemSt d L FU FN G (80 * (64 * 7 + e.val))
      ⊢ wp frame (wpE (defs₀ (F := F)) 𝒱₀ (V d (cV L) (jV L)) none) Set.univ
          (k0_t24_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10 e acc)
          (fun _ => elemSt d L FU FN G (80 * (64 * 7 + (e.val + 1)))) := by
  kelem_proof 7 k0_t24_abs k0_t24_body k0_off1875_eq k0_off1876_eq k0_off1877_eq k0_off1878_eq k0_off1879_eq k0_off1880_eq k0_off1881_eq k0_off1882_eq k0_off1883_eq k0_off1883_inb k0_pay888 k0_pay889 k0_pay890 k0_pay891 k0_pay892 k0_pay893 k0_pay894 k0_pay895 k0_pay896 k0_pay897 k0_pay898 k0_pay2

end Cert.Proof.KTileU

end
-- ==== Proof.KTileULanded.lean ====
/-
  What one chunk's 384 row copies leave, joined: the two staging buffers whole, each row holding the table row
  its index word names, and the subcore's read share of the table whole again.

  Row e of the 64-row buffer, once landed, reads table row "chunk's e-th context word" at the same column; row r
  of the 320-row buffer reads table row "chunk's r-th negative word". Transfer t = 6 e + q writes row e of the
  first buffer when q = 0 and row 5 e + (q - 1) of the second otherwise, so the 384 transfers' destination rows
  are exactly the 64 + 320 rows of the two buffers, each once. Every transfer hands back the table row it read
  under its own token of the share; that row and the rest of the token make the token whole, and the 384 tokens
  with what was left of the share make the share whole.
-/
import proofs.«218857_g62938450756068_cont_9to1c4b_813_41_alg».proof.Proof.KTileUBatch

noncomputable section

namespace Cert.Proof.KTileU

open Cert.Kernel Cert.Kernel.Gen Cert.Proof.KernelBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## One row of a two-axis array, as a 64-entry view -/

/-- Entry x of the row-r unit rectangle of an N × 64 array, read as a 64-entry vector, sits at (r, x). -/
theorem row_emb {N : ℕ} (r : Fin N) (inb : ∀ a, (![r.val, 0] : Fin 2 → Nat) a + S1x64.size a ≤ (⟨2, ![N, 64]⟩ : Shape).size a)
    (h : S64.numel = (Rect.unit (s := ⟨2, ![N, 64]⟩) ![r.val, 0] S1x64.size inb).shape.numel) (x : S64.Idx) :
    (Rect.unit (s := ⟨2, ![N, 64]⟩) ![r.val, 0] S1x64.size inb).emb (Shape.reshapeEquiv h x) = ix2 r (x 0) := by
  have hq := Shape.rowMajor_reshapeEquiv h x
  rw [Shape.rowMajor_val_two, Shape.rowMajor_val_one] at hq
  have h0 : ((Shape.reshapeEquiv h x) 0).val < 1 := ((Shape.reshapeEquiv h x) 0).isLt
  have hq' : ((Shape.reshapeEquiv h x) 0).val * 64 + ((Shape.reshapeEquiv h x) 1).val = (x 0).val := hq
  funext a; refine Fin.ext ?_
  rw [Rect.emb_apply]
  match a with
  | ⟨0, _⟩ =>
    show r.val + 1 * ((Shape.reshapeEquiv h x) 0).val = r.val
    omega
  | ⟨1, _⟩ =>
    show 0 + 1 * ((Shape.reshapeEquiv h x) 1).val = (x 0).val
    omega

/-- Two casts along type equations are one cast along any equation between the ends. -/
theorem cast_cast_of_eq {α β γ : Type} (h2 : α = β) (h1 : β = γ) (h : α = γ) (a : α) :
    cast h1 (cast h2 a) = cast h a := by
  subst h2; subst h1; rfl

/-! ## The landed rows -/

section Chunk

variable (m : (ℓ : Loc nD τ sig) → Buf (Elt F) ℓ) (d : Dev nD) (L : grid0.Coords)
variable (xs : S512.Idx → BitVec 32) (ns : S2560.Idx → BitVec 32) (c : Fin 8)
variable (fu : Buf (Elt F) ((V d (cV L) (jV L)).loc cc0_scratch2)) (fn : Buf (Elt F) ((V d (cV L) (jV L)).loc cc0_scratch3))

/-- The 64-row buffer with every row landed: row e holds the table row the chunk's e-th context word names. -/
def FUc : Buf (Elt F) ((V d (cV L) (jV L)).loc cc0_scratch2) :=
  fun y : S64x64.Idx => (m (euLoc d) : S1000000x64.Idx → F .f32) (ix2 (xrow xs c (y 0).val) (y 1))
/-- The 320-row buffer with every row landed: row r holds the table row the chunk's r-th negative word names. -/
def FNc : Buf (Elt F) ((V d (cV L) (jV L)).loc cc0_scratch3) :=
  fun y : S320x64.Idx => (m (euLoc d) : S1000000x64.Idx → F .f32) (ix2 (nrow ns c (y 0).val) (y 1))

/-- On row e, the buffer with row e landed reads the table row at the same column. -/
theorem landU_apply (e : Fin 64) (y : S64x64.Idx) (hy : y ∈ uRowSet e) :
    landU m d L xs c fu e y = FUc m d L xs c y := by
  have hy' : y ∈ (uRow e).view.set := by rw [set_uRow]; exact hy
  obtain ⟨x, -, rfl⟩ := Finset.mem_map.mp hy'
  have hu : (uRow e).view.emb x = ix2 e (x 0) := row_emb e (inbU e) _ x
  have ht : (tRow (xrow xs c e.val)).view.emb x = ix2 (xrow xs c e.val) (x 0) := row_emb (xrow xs c e.val) (inbT _) _ x
  unfold landU
  refine (View.write_emb_of_mem (v := (uRow e).view) (Val := Elt F) fu _ (Finset.mem_univ x)).trans ?_
  show cast _ (cast _ (m (euLoc d) ((tRow (xrow xs c e.val)).view.emb x))) = _
  refine (cast_cast_of_eq _ _ rfl _).trans ?_
  exact (congrArg (m (euLoc d)) ht).trans (congrArg (FUc m d L xs c) hu).symm

/-- On row r, the buffer with row r landed reads the table row at the same column. -/
theorem landN_apply (r : Fin 320) (y : S320x64.Idx) (hy : y ∈ nRowSet r) :
    landN m d L ns c fn r y = FNc m d L ns c y := by
  have hy' : y ∈ (nRow r).view.set := by rw [set_nRow]; exact hy
  obtain ⟨x, -, rfl⟩ := Finset.mem_map.mp hy'
  have hu : (nRow r).view.emb x = ix2 r (x 0) := row_emb r (inbN r) _ x
  have ht : (tRow (nrow ns c r.val)).view.emb x = ix2 (nrow ns c r.val) (x 0) := row_emb (nrow ns c r.val) (inbT _) _ x
  unfold landN
  refine (View.write_emb_of_mem (v := (nRow r).view) (Val := Elt F) fn _ (Finset.mem_univ x)).trans ?_
  show cast _ (cast _ (m (euLoc d) ((tRow (nrow ns c r.val)).view.emb x))) = _
  refine (cast_cast_of_eq _ _ rfl _).trans ?_
  exact (congrArg (m (euLoc d)) ht).trans (congrArg (FNc m d L ns c) hu).symm

/-! ## The 384 deliveries joined -/

/-- The destination row of transfer t at its landed contents, written over the whole-buffer functions. -/
def dstRow (t : Fin 384) : sProp 𝕄 :=
  if t.val % 6 = 0 then
    ((V d (cV L) (jV L)).loc cc0_scratch2 ↦[uRowSet ⟨t.val / 6, uDiv_lt t.isLt⟩]{fullShare} FUc m d L xs c)
  else
    ((V d (cV L) (jV L)).loc cc0_scratch3 ↦[nRowSet ⟨nIdx t.val, nIdx_lt t.isLt⟩]{fullShare} FNc m d L ns c)

/-- The source row of transfer number t under the transfer's token. -/
def srcTok (t : ℕ) : sProp 𝕄 :=
  euLoc d ↦[tRowSet (srcRow xs ns c t)]{Transfers.shareTokN (qw L) t} m (euLoc d)

/-- A delivery is its destination row (at the whole-buffer function) and its source row. -/
theorem DU_eq (t : Fin 384) :
    DU m d L xs ns c fu fn t = iprop(dstRow m d L xs ns c t ∗ srcTok m d L xs ns c t.val) := by
  unfold DU dstRow srcTok srcRow
  by_cases h : t.val % 6 = 0
  · rw [if_pos h, if_pos h, if_pos h,
      pointsTo_congr (fun y hy => landU_apply m d L xs c fu ⟨t.val / 6, uDiv_lt t.isLt⟩ y hy)]
  · rw [if_neg h, if_neg h, if_neg h,
      pointsTo_congr (fun y hy => landN_apply m d L ns c fn ⟨nIdx t.val, nIdx_lt t.isLt⟩ y hy)]

/-- A transfer's source row and the rest of its token are the token whole. -/
theorem srcTok_restTok (t : ℕ) :
    iprop(srcTok m d L xs ns c t ∗ restTok m d L xs ns c t)
      = (euLoc d ↦{Transfers.shareTokN (qw L) t} m (euLoc d) : sProp 𝕄) := by
  unfold srcTok restTok
  have h := pointsTo_split_subset (Ix := HIx 2) (Val := Elt F) (Name := ℕ) (U := UU) (Lvl := ℕ) (ℓ := euLoc d) (q := Transfers.shareTokN (qw L) t) (f := m (euLoc d))
    (Finset.subset_univ (tRowSet (srcRow xs ns c t)))
  exact (BI.equiv_iff.mp ⟨h.1, h.2⟩).symm

/-- The rows written by the transfers t = 6 e are the 64 rows of the first buffer, each once. -/
theorem dst_first :
    bigSep (Finset.univ.filter fun t : Fin 384 => t.val % 6 = 0) (dstRow m d L xs ns c)
      = ((V d (cV L) (jV L)).loc cc0_scratch2 ↦{fullShare} FUc m d L xs c : sProp 𝕄) := by
  have hcongr : bigSep (Finset.univ.filter fun t : Fin 384 => t.val % 6 = 0) (dstRow m d L xs ns c)
      = bigSep (Finset.univ.filter fun t : Fin 384 => t.val % 6 = 0) (fun t : Fin 384 =>
          ((V d (cV L) (jV L)).loc cc0_scratch2 ↦[uRowSet ⟨t.val / 6, uDiv_lt t.isLt⟩]{fullShare} FUc m d L xs c : sProp 𝕄)) :=
    bigSep_congr fun t ht => by
      unfold dstRow; rw [if_pos (Finset.mem_filter.mp ht).2]
  have hd : ∀ t ∈ (Finset.univ.filter fun t : Fin 384 => t.val % 6 = 0),
      ∀ t' ∈ (Finset.univ.filter fun t : Fin 384 => t.val % 6 = 0), t ≠ t' →
        Disjoint (uRowSet ⟨t.val / 6, uDiv_lt t.isLt⟩) (uRowSet ⟨t'.val / 6, uDiv_lt t'.isLt⟩) := by
    intro t ht t' ht' hne
    have h1 : t.val % 6 = 0 := (Finset.mem_filter.mp ht).2
    have h2 : t'.val % 6 = 0 := (Finset.mem_filter.mp ht').2
    refine Finset.disjoint_left.mpr fun y hy hy' => hne (Fin.ext ?_)
    rw [mem_uRowSet] at hy hy'
    have e1 : (y 0).val = t.val / 6 := hy
    have e2 : (y 0).val = t'.val / 6 := hy'
    omega
  have hcover : (Finset.univ.filter fun t : Fin 384 => t.val % 6 = 0).biUnion
      (fun t : Fin 384 => uRowSet ⟨t.val / 6, uDiv_lt t.isLt⟩) = Finset.univ := by
    ext y
    simp only [Finset.mem_biUnion, Finset.mem_univ, iff_true]
    have h0 : (y 0).val < 64 := (y 0).isLt
    refine ⟨⟨6 * (y 0).val, by omega⟩, Finset.mem_filter.mpr ⟨Finset.mem_univ _, by show 6 * (y 0).val % 6 = 0; omega⟩, ?_⟩
    rw [mem_uRowSet]
    show (y 0).val = 6 * (y 0).val / 6
    omega
  rw [hcongr]
  have key := pointsTo_biUnion (Ix := HIx 2) (Val := Elt F) (Name := ℕ) (U := UU) (Lvl := ℕ) (ℓ := (V d (cV L) (jV L)).loc cc0_scratch2) (q := fullShare)
    (f := FUc m d L xs c) (Finset.univ.filter fun t : Fin 384 => t.val % 6 = 0)
    (fun t : Fin 384 => (uRowSet ⟨t.val / 6, uDiv_lt t.isLt⟩ : Finset (Idx ((V d (cV L) (jV L)).loc cc0_scratch2)))) hd
  rw [hcover] at key
  exact key.symm

/-- The rows written by the other transfers are the 320 rows of the second buffer, each once. -/
theorem dst_second :
    bigSep (Finset.univ.filter fun t : Fin 384 => ¬ t.val % 6 = 0) (dstRow m d L xs ns c)
      = ((V d (cV L) (jV L)).loc cc0_scratch3 ↦{fullShare} FNc m d L ns c : sProp 𝕄) := by
  have hcongr : bigSep (Finset.univ.filter fun t : Fin 384 => ¬ t.val % 6 = 0) (dstRow m d L xs ns c)
      = bigSep (Finset.univ.filter fun t : Fin 384 => ¬ t.val % 6 = 0) (fun t : Fin 384 =>
          ((V d (cV L) (jV L)).loc cc0_scratch3 ↦[nRowSet ⟨nIdx t.val, nIdx_lt t.isLt⟩]{fullShare} FNc m d L ns c : sProp 𝕄)) :=
    bigSep_congr fun t ht => by
      unfold dstRow; rw [if_neg (Finset.mem_filter.mp ht).2]
  have hd : ∀ t ∈ (Finset.univ.filter fun t : Fin 384 => ¬ t.val % 6 = 0),
      ∀ t' ∈ (Finset.univ.filter fun t : Fin 384 => ¬ t.val % 6 = 0), t ≠ t' →
        Disjoint (nRowSet ⟨nIdx t.val, nIdx_lt t.isLt⟩) (nRowSet ⟨nIdx t'.val, nIdx_lt t'.isLt⟩) := by
    intro t ht t' ht' hne
    have h1 : ¬ t.val % 6 = 0 := (Finset.mem_filter.mp ht).2
    have h2 : ¬ t'.val % 6 = 0 := (Finset.mem_filter.mp ht').2
    refine Finset.disjoint_left.mpr fun y hy hy' => hne (Fin.ext ?_)
    rw [mem_nRowSet] at hy hy'
    have e1 : (y 0).val = nIdx t.val := hy
    have e2 : (y 0).val = nIdx t'.val := hy'
    unfold nIdx at e1 e2
    omega
  have hcover : (Finset.univ.filter fun t : Fin 384 => ¬ t.val % 6 = 0).biUnion
      (fun t : Fin 384 => nRowSet ⟨nIdx t.val, nIdx_lt t.isLt⟩) = Finset.univ := by
    ext y
    simp only [Finset.mem_biUnion, Finset.mem_univ, iff_true]
    have h0 : (y 0).val < 320 := (y 0).isLt
    refine ⟨⟨6 * ((y 0).val / 5) + (y 0).val % 5 + 1, by omega⟩,
      Finset.mem_filter.mpr ⟨Finset.mem_univ _, by show ¬ (6 * ((y 0).val / 5) + (y 0).val % 5 + 1) % 6 = 0; omega⟩, ?_⟩
    rw [mem_nRowSet]
    show (y 0).val = nIdx (6 * ((y 0).val / 5) + (y 0).val % 5 + 1)
    unfold nIdx
    omega
  rw [hcongr]
  have key := pointsTo_biUnion (Ix := HIx 2) (Val := Elt F) (Name := ℕ) (U := UU) (Lvl := ℕ) (ℓ := (V d (cV L) (jV L)).loc cc0_scratch3) (q := fullShare)
    (f := FNc m d L ns c) (Finset.univ.filter fun t : Fin 384 => ¬ t.val % 6 = 0)
    (fun t : Fin 384 => (nRowSet ⟨nIdx t.val, nIdx_lt t.isLt⟩ : Finset (Idx ((V d (cV L) (jV L)).loc cc0_scratch3)))) hd
  rw [hcover] at key
  exact key.symm

/-- THE CHUNK COLLECTED: the 384 deliveries, the rests of the 384 tokens and what was left of the share are the two
    staging buffers whole at their landed contents and the subcore's read share of the table whole. -/
theorem collect :
    iprop(bigSep Finset.univ (DU m d L xs ns c fu fn) ∗ bigSep (Finset.range 384) (restTok m d L xs ns c)
        ∗ (euLoc d ↦{Transfers.shareDrop (qw L) 384} m (euLoc d)))
      ⊢ iprop(((V d (cV L) (jV L)).loc cc0_scratch2 ↦{fullShare} FUc m d L xs c)
        ∗ ((V d (cV L) (jV L)).loc cc0_scratch3 ↦{fullShare} FNc m d L ns c) ∗ (euLoc d ↦{qw L} m (euLoc d))) := by
  have hdst : bigSep Finset.univ (dstRow m d L xs ns c)
      = iprop(((V d (cV L) (jV L)).loc cc0_scratch2 ↦{fullShare} FUc m d L xs c)
          ∗ ((V d (cV L) (jV L)).loc cc0_scratch3 ↦{fullShare} FNc m d L ns c)) :=
    (bigSep_filter_split Finset.univ (fun t : Fin 384 => t.val % 6 = 0)).trans
      (congrArg₂ BI.sep (dst_first m d L xs ns c) (dst_second m d L xs ns c))
  have hsrc : bigSep Finset.univ (fun t : Fin 384 => srcTok m d L xs ns c t.val)
      = bigSep (Finset.range 384) (srcTok m d L xs ns c) :=
    Idealize.ShloMosaic.Ring.bigSep_fin_eq_range 384 (fun t : Fin 384 => srcTok m d L xs ns c t.val) (srcTok m d L xs ns c) (fun _ _ => rfl)
  have hD : bigSep Finset.univ (DU m d L xs ns c fu fn)
      = iprop((((V d (cV L) (jV L)).loc cc0_scratch2 ↦{fullShare} FUc m d L xs c)
          ∗ ((V d (cV L) (jV L)).loc cc0_scratch3 ↦{fullShare} FNc m d L ns c))
          ∗ bigSep (Finset.range 384) (srcTok m d L xs ns c)) :=
    (bigSep_congr (fun t _ => DU_eq m d L xs ns c fu fn t)).trans
      ((bigSep_sep Finset.univ (dstRow m d L xs ns c) (fun t : Fin 384 => srcTok m d L xs ns c t.val)).trans
        (congrArg₂ BI.sep hdst hsrc))
  have hT : iprop(bigSep (Finset.range 384) (srcTok m d L xs ns c) ∗ bigSep (Finset.range 384) (restTok m d L xs ns c))
      = bigSep (Finset.range 384) (fun t => (euLoc d ↦{Transfers.shareTokN (qw L) t} m (euLoc d) : sProp 𝕄)) :=
    (bigSep_sep (Finset.range 384) (srcTok m d L xs ns c) (restTok m d L xs ns c)).symm.trans
      (bigSep_congr fun t _ => srcTok_restTok m d L xs ns c t)
  have hQ : iprop((euLoc d ↦{Transfers.shareDrop (qw L) 384} m (euLoc d))
        ∗ bigSep (Finset.range 384) (fun t => (euLoc d ↦{Transfers.shareTokN (qw L) t} m (euLoc d) : sProp 𝕄)))
      = (euLoc d ↦{qw L} m (euLoc d) : sProp 𝕄) := by
    have h := Transfers.pointsTo_toks_range (Ix := HIx 2) (Val := Elt F) (Name := ℕ) (U := UU) (Lvl := ℕ) (ℓ := euLoc d) (S := Finset.univ) (f := m (euLoc d)) (qw L) 384
    exact (BI.equiv_iff.mp ⟨h.1, h.2⟩).symm
  have hW : iprop((euLoc d ↦{Transfers.shareDrop (qw L) 384} m (euLoc d))
        ∗ bigSep (Finset.range 384) (srcTok m d L xs ns c) ∗ bigSep (Finset.range 384) (restTok m d L xs ns c))
      ⊢ (euLoc d ↦{qw L} m (euLoc d) : sProp 𝕄) := by
    rw [hT, hQ]
  rw [hD]
  iintro ⟨⟨⟨HU, HN⟩, HS⟩, HR, HD⟩
  isplitl [HU]
  · iexact HU
  isplitl [HN]
  · iexact HN
  iapply hW
  isplitl [HD]
  · iexact HD
  isplitl [HS]
  · iexact HS
  iexact HR

end Chunk

end Cert.Proof.KTileU

end
-- ==== Proof.KTileUOut.lean ====
/-
  The subcore's slice of the copied context rows, cut as the kernel writes it.

  Worker w owns rows [512 w, 512 w + 512) of the 16384 × 64 array of copied rows, all 64 columns. The kernel writes
  them as eight blocks of 64 rows, block k being rows [512 w + 64 k, 512 w + 64 k + 64): the eight blocks are
  pairwise disjoint and cover the slice, so holding the slice is holding the eight blocks. A whole write through
  block k's view leaves, at row y₀ and column y₁ of the array, the written block's entry (y₀ - (512 w + 64 k), y₁).
-/
import proofs.«218857_g62938450756068_cont_9to1c4b_813_41_alg».proof.Proof.KTileUDefs

noncomputable section

namespace Cert.Proof.KTileU

open Cert.Kernel Cert.Kernel.Gen Cert.Proof.KernelBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- A separating conjunction over eight indices, spelt out. -/
theorem bigSep_fin8 {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) := by
  have hu : (Finset.univ : Finset (Fin 8))
      = insert 0 (insert 1 (insert 2 (insert 3 (insert 4 (insert 5 (insert 6 {7})))))) := by decide
  rw [hu, bigSep_insert (by decide), bigSep_insert (by decide), bigSep_insert (by decide), bigSep_insert (by decide),
    bigSep_insert (by decide), bigSep_insert (by decide), bigSep_insert (by decide), bigSep_singleton]
  rfl

section Out

variable (m : (ℓ : Loc nD τ sig) → Buf (Elt F) ℓ) (d : Dev nD) (L : grid0.Coords)

/-! ## The slice and its eight blocks, by rows -/

/-- Worker w's slice of the copied rows is rows [512 w, 512 w + 512). -/
theorem mem_urowsSlice (w : Fin 32) (y : S16384x64.Idx) :
    y ∈ urowsSlice w ↔ 512 * w.val ≤ (y 0).val ∧ (y 0).val < 512 * w.val + 512 := by
  have h1 : (y 1).val < 64 := (y 1).isLt
  rw [Rect.mem_set_unit]
  constructor
  · intro H
    have a0 : w.val * 512 ≤ (y 0).val ∧ (y 0).val < w.val * 512 + 512 := H 0
    omega
  · intro H a; fin_cases a
    · show w.val * 512 ≤ (y 0).val ∧ (y 0).val < w.val * 512 + 512; omega
    · show 0 * 64 ≤ (y 1).val ∧ (y 1).val < 0 * 64 + 64; omega

/-- Block k, as the program's memref, covers rows [512 w + 64 k, 512 w + 64 k + 64). -/
theorem mem_urowsK (k : Fin 8) (y : S16384x64.Idx) :
    y ∈ (urowsK L k).view.set ↔ 512 * (wL L).val + 64 * k.val ≤ (y 0).val ∧ (y 0).val < 512 * (wL L).val + 64 * k.val + 64 := by
  have e : (urowsK L k).view.set = (urowsRectK L k).set := View.set_slice_whole _ _
  rw [e]; exact mem_urowsRectK L k y

/-- The slice is the eight blocks. -/
theorem urows_split (f : Buf (Elt F) (urowsLoc d)) :
    (urowsLoc d ↦[urowsSlice (wL L)]{fullShare} f : sProp 𝕄)
      = bigSep Finset.univ (fun k : Fin 8 => (urowsLoc d ↦[(urowsRectK L k).set]{fullShare} f : sProp 𝕄)) := by
  have hcover : (Finset.univ : Finset (Fin 8)).biUnion
      (fun k : Fin 8 => ((urowsRectK L k).set : Finset (Idx (urowsLoc d)))) = urowsSlice (wL L) := by
    ext y
    simp only [Finset.mem_biUnion, Finset.mem_univ, true_and]
    rw [mem_urowsSlice]
    constructor
    · rintro ⟨k, hk⟩
      have hk' := (mem_urowsRectK L k y).mp hk
      have := k.isLt
      omega
    · intro h
      refine ⟨⟨((y 0).val - 512 * (wL L).val) / 64, by omega⟩, (mem_urowsRectK L _ y).mpr ?_⟩
      show 512 * (wL L).val + 64 * (((y 0).val - 512 * (wL L).val) / 64) ≤ (y 0).val
        ∧ (y 0).val < 512 * (wL L).val + 64 * (((y 0).val - 512 * (wL L).val) / 64) + 64
      omega
  have hd : ∀ k ∈ (Finset.univ : Finset (Fin 8)), ∀ k' ∈ (Finset.univ : Finset (Fin 8)), k ≠ k' →
      Disjoint ((urowsRectK L k).set : Finset (Idx (urowsLoc d))) ((urowsRectK L k').set : Finset (Idx (urowsLoc d))) := by
    intro k _ k' _ hne
    refine Finset.disjoint_left.mpr fun y hy hy' => hne (Fin.ext ?_)
    have h1 := (mem_urowsRectK L k y).mp hy
    have h2 := (mem_urowsRectK L k' y).mp hy'
    omega
  have key := pointsTo_biUnion (Ix := HIx 2) (Val := Elt F) (Name := ℕ) (U := UU) (Lvl := ℕ) (ℓ := urowsLoc d) (q := fullShare)
    (f := f) Finset.univ (fun k : Fin 8 => ((urowsRectK L k).set : Finset (Idx (urowsLoc d)))) hd
  rw [hcover] at key
  exact key

/-! ## The eight blocks in the program's spelling -/

/-- Block 0 of the subcore's rows, rows [512 w + 0, 512 w + 0 + 64), as the program spells its memref. -/
abbrev blkM0 : Memref sig .scVector .hbm S64x64 .f32 :=
  (Memref.whole main_v1_1_scv : Memref sig .scVector .hbm S16384x64 .f32).slice
    (Rect.unit (s := S16384x64) (k0_off238 L 0#32) S64x64.size (k0_off238_inb L 0)) (fun _ => rfl)
theorem blkM0_eq : blkM0 L = urowsK L 0 := rfl
/-- Block 1 of the subcore's rows, rows [512 w + 64, 512 w + 64 + 64), as the program spells its memref. -/
abbrev blkM1 : Memref sig .scVector .hbm S64x64 .f32 :=
  (Memref.whole main_v1_1_scv : Memref sig .scVector .hbm S16384x64 .f32).slice
    (Rect.unit (s := S16384x64) (k0_off238 L 64#32) S64x64.size (k0_off238_inb L 1)) (fun _ => rfl)
theorem blkM1_eq : blkM1 L = urowsK L 1 := rfl
/-- Block 2 of the subcore's rows, rows [512 w + 128, 512 w + 128 + 64), as the program spells its memref. -/
abbrev blkM2 : Memref sig .scVector .hbm S64x64 .f32 :=
  (Memref.whole main_v1_1_scv : Memref sig .scVector .hbm S16384x64 .f32).slice
    (Rect.unit (s := S16384x64) (k0_off238 L 128#32) S64x64.size (k0_off238_inb L 2)) (fun _ => rfl)
theorem blkM2_eq : blkM2 L = urowsK L 2 := rfl
/-- Block 3 of the subcore's rows, rows [512 w + 192, 512 w + 192 + 64), as the program spells its memref. -/
abbrev blkM3 : Memref sig .scVector .hbm S64x64 .f32 :=
  (Memref.whole main_v1_1_scv : Memref sig .scVector .hbm S16384x64 .f32).slice
    (Rect.unit (s := S16384x64) (k0_off238 L 192#32) S64x64.size (k0_off238_inb L 3)) (fun _ => rfl)
theorem blkM3_eq : blkM3 L = urowsK L 3 := rfl
/-- Block 4 of the subcore's rows, rows [512 w + 256, 512 w + 256 + 64), as the program spells its memref. -/
abbrev blkM4 : Memref sig .scVector .hbm S64x64 .f32 :=
  (Memref.whole main_v1_1_scv : Memref sig .scVector .hbm S16384x64 .f32).slice
    (Rect.unit (s := S16384x64) (k0_off238 L 256#32) S64x64.size (k0_off238_inb L 4)) (fun _ => rfl)
theorem blkM4_eq : blkM4 L = urowsK L 4 := rfl
/-- Block 5 of the subcore's rows, rows [512 w + 320, 512 w + 320 + 64), as the program spells its memref. -/
abbrev blkM5 : Memref sig .scVector .hbm S64x64 .f32 :=
  (Memref.whole main_v1_1_scv : Memref sig .scVector .hbm S16384x64 .f32).slice
    (Rect.unit (s := S16384x64) (k0_off238 L 320#32) S64x64.size (k0_off238_inb L 5)) (fun _ => rfl)
theorem blkM5_eq : blkM5 L = urowsK L 5 := rfl
/-- Block 6 of the subcore's rows, rows [512 w + 384, 512 w + 384 + 64), as the program spells its memref. -/
abbrev blkM6 : Memref sig .scVector .hbm S64x64 .f32 :=
  (Memref.whole main_v1_1_scv : Memref sig .scVector .hbm S16384x64 .f32).slice
    (Rect.unit (s := S16384x64) (k0_off238 L 384#32) S64x64.size (k0_off238_inb L 6)) (fun _ => rfl)
theorem blkM6_eq : blkM6 L = urowsK L 6 := rfl
/-- Block 7 of the subcore's rows, rows [512 w + 448, 512 w + 448 + 64), as the program spells its memref. -/
abbrev blkM7 : Memref sig .scVector .hbm S64x64 .f32 :=
  (Memref.whole main_v1_1_scv : Memref sig .scVector .hbm S16384x64 .f32).slice
    (Rect.unit (s := S16384x64) (k0_off238 L 448#32) S64x64.size (k0_off238_inb L 7)) (fun _ => rfl)
theorem blkM7_eq : blkM7 L = urowsK L 7 := rfl

theorem set_blkM0 : (blkM0 L).view.set = (urowsRectK L 0).set := View.set_slice_whole _ _
theorem set_blkM1 : (blkM1 L).view.set = (urowsRectK L 1).set := View.set_slice_whole _ _
theorem set_blkM2 : (blkM2 L).view.set = (urowsRectK L 2).set := View.set_slice_whole _ _
theorem set_blkM3 : (blkM3 L).view.set = (urowsRectK L 3).set := View.set_slice_whole _ _
theorem set_blkM4 : (blkM4 L).view.set = (urowsRectK L 4).set := View.set_slice_whole _ _
theorem set_blkM5 : (blkM5 L).view.set = (urowsRectK L 5).set := View.set_slice_whole _ _
theorem set_blkM6 : (blkM6 L).view.set = (urowsRectK L 6).set := View.set_slice_whole _ _
theorem set_blkM7 : (blkM7 L).view.set = (urowsRectK L 7).set := View.set_slice_whole _ _

/-- THE SLICE AS THE EIGHT BLOCKS, each held through the program's own memref. -/
theorem urows_blocks (f : Buf (Elt F) (urowsLoc d)) :
    (urowsLoc d ↦[urowsSlice (wL L)]{fullShare} f : sProp 𝕄)
      = iprop(((blkM0 L).view.loc (V d (cV L) (jV L)) ↦[(blkM0 L).view.set]{fullShare} f)
        ∗ ((blkM1 L).view.loc (V d (cV L) (jV L)) ↦[(blkM1 L).view.set]{fullShare} f)
        ∗ ((blkM2 L).view.loc (V d (cV L) (jV L)) ↦[(blkM2 L).view.set]{fullShare} f)
        ∗ ((blkM3 L).view.loc (V d (cV L) (jV L)) ↦[(blkM3 L).view.set]{fullShare} f)
        ∗ ((blkM4 L).view.loc (V d (cV L) (jV L)) ↦[(blkM4 L).view.set]{fullShare} f)
        ∗ ((blkM5 L).view.loc (V d (cV L) (jV L)) ↦[(blkM5 L).view.set]{fullShare} f)
        ∗ ((blkM6 L).view.loc (V d (cV L) (jV L)) ↦[(blkM6 L).view.set]{fullShare} f)
        ∗ ((blkM7 L).view.loc (V d (cV L) (jV L)) ↦[(blkM7 L).view.set]{fullShare} f)) := by
  rw [urows_split, bigSep_fin8, set_blkM0, set_blkM1, set_blkM2, set_blkM3, set_blkM4, set_blkM5, set_blkM6, set_blkM7]

theorem mem_blk0 (y : S16384x64.Idx) :
    y ∈ (blkM0 L).view.set ↔ 512 * (wL L).val + 64 * 0 ≤ (y 0).val ∧ (y 0).val < 512 * (wL L).val + 64 * 0 + 64 :=
  mem_urowsK L 0 y
theorem mem_blk1 (y : S16384x64.Idx) :
    y ∈ (blkM1 L).view.set ↔ 512 * (wL L).val + 64 * 1 ≤ (y 0).val ∧ (y 0).val < 512 * (wL L).val + 64 * 1 + 64 :=
  mem_urowsK L 1 y
theorem mem_blk2 (y : S16384x64.Idx) :
    y ∈ (blkM2 L).view.set ↔ 512 * (wL L).val + 64 * 2 ≤ (y 0).val ∧ (y 0).val < 512 * (wL L).val + 64 * 2 + 64 :=
  mem_urowsK L 2 y
theorem mem_blk3 (y : S16384x64.Idx) :
    y ∈ (blkM3 L).view.set ↔ 512 * (wL L).val + 64 * 3 ≤ (y 0).val ∧ (y 0).val < 512 * (wL L).val + 64 * 3 + 64 :=
  mem_urowsK L 3 y
theorem mem_blk4 (y : S16384x64.Idx) :
    y ∈ (blkM4 L).view.set ↔ 512 * (wL L).val + 64 * 4 ≤ (y 0).val ∧ (y 0).val < 512 * (wL L).val + 64 * 4 + 64 :=
  mem_urowsK L 4 y
theorem mem_blk5 (y : S16384x64.Idx) :
    y ∈ (blkM5 L).view.set ↔ 512 * (wL L).val + 64 * 5 ≤ (y 0).val ∧ (y 0).val < 512 * (wL L).val + 64 * 5 + 64 :=
  mem_urowsK L 5 y
theorem mem_blk6 (y : S16384x64.Idx) :
    y ∈ (blkM6 L).view.set ↔ 512 * (wL L).val + 64 * 6 ≤ (y 0).val ∧ (y 0).val < 512 * (wL L).val + 64 * 6 + 64 :=
  mem_urowsK L 6 y
theorem mem_blk7 (y : S16384x64.Idx) :
    y ∈ (blkM7 L).view.set ↔ 512 * (wL L).val + 64 * 7 ≤ (y 0).val ∧ (y 0).val < 512 * (wL L).val + 64 * 7 + 64 :=
  mem_urowsK L 7 y

/-! ## A block's contents: changing them off the block, and writing the block whole -/

theorem urowsK_congr (k : Fin 8) (f g : Buf (Elt F) (urowsLoc d))
    (h : ∀ y : S16384x64.Idx, 512 * (wL L).val + 64 * k.val ≤ (y 0).val → (y 0).val < 512 * (wL L).val + 64 * k.val + 64 → f y = g y) :
    ((urowsK L k).view.loc (V d (cV L) (jV L)) ↦[(urowsK L k).view.set]{fullShare} f : sProp 𝕄)
      = ((urowsK L k).view.loc (V d (cV L) (jV L)) ↦[(urowsK L k).view.set]{fullShare} g) :=
  pointsTo_congr fun y hy => h y ((mem_urowsK L k y).mp hy).1 ((mem_urowsK L k y).mp hy).2

theorem blk_congr0 (f g : Buf (Elt F) (urowsLoc d))
    (h : ∀ y : S16384x64.Idx, 512 * (wL L).val + 64 * 0 ≤ (y 0).val → (y 0).val < 512 * (wL L).val + 64 * 0 + 64 → f y = g y) :
    ((blkM0 L).view.loc (V d (cV L) (jV L)) ↦[(blkM0 L).view.set]{fullShare} f : sProp 𝕄)
      = ((blkM0 L).view.loc (V d (cV L) (jV L)) ↦[(blkM0 L).view.set]{fullShare} g) :=
  urowsK_congr d L 0 f g h
theorem blk_congr1 (f g : Buf (Elt F) (urowsLoc d))
    (h : ∀ y : S16384x64.Idx, 512 * (wL L).val + 64 * 1 ≤ (y 0).val → (y 0).val < 512 * (wL L).val + 64 * 1 + 64 → f y = g y) :
    ((blkM1 L).view.loc (V d (cV L) (jV L)) ↦[(blkM1 L).view.set]{fullShare} f : sProp 𝕄)
      = ((blkM1 L).view.loc (V d (cV L) (jV L)) ↦[(blkM1 L).view.set]{fullShare} g) :=
  urowsK_congr d L 1 f g h
theorem blk_congr2 (f g : Buf (Elt F) (urowsLoc d))
    (h : ∀ y : S16384x64.Idx, 512 * (wL L).val + 64 * 2 ≤ (y 0).val → (y 0).val < 512 * (wL L).val + 64 * 2 + 64 → f y = g y) :
    ((blkM2 L).view.loc (V d (cV L) (jV L)) ↦[(blkM2 L).view.set]{fullShare} f : sProp 𝕄)
      = ((blkM2 L).view.loc (V d (cV L) (jV L)) ↦[(blkM2 L).view.set]{fullShare} g) :=
  urowsK_congr d L 2 f g h
theorem blk_congr3 (f g : Buf (Elt F) (urowsLoc d))
    (h : ∀ y : S16384x64.Idx, 512 * (wL L).val + 64 * 3 ≤ (y 0).val → (y 0).val < 512 * (wL L).val + 64 * 3 + 64 → f y = g y) :
    ((blkM3 L).view.loc (V d (cV L) (jV L)) ↦[(blkM3 L).view.set]{fullShare} f : sProp 𝕄)
      = ((blkM3 L).view.loc (V d (cV L) (jV L)) ↦[(blkM3 L).view.set]{fullShare} g) :=
  urowsK_congr d L 3 f g h
theorem blk_congr4 (f g : Buf (Elt F) (urowsLoc d))
    (h : ∀ y : S16384x64.Idx, 512 * (wL L).val + 64 * 4 ≤ (y 0).val → (y 0).val < 512 * (wL L).val + 64 * 4 + 64 → f y = g y) :
    ((blkM4 L).view.loc (V d (cV L) (jV L)) ↦[(blkM4 L).view.set]{fullShare} f : sProp 𝕄)
      = ((blkM4 L).view.loc (V d (cV L) (jV L)) ↦[(blkM4 L).view.set]{fullShare} g) :=
  urowsK_congr d L 4 f g h
theorem blk_congr5 (f g : Buf (Elt F) (urowsLoc d))
    (h : ∀ y : S16384x64.Idx, 512 * (wL L).val + 64 * 5 ≤ (y 0).val → (y 0).val < 512 * (wL L).val + 64 * 5 + 64 → f y = g y) :
    ((blkM5 L).view.loc (V d (cV L) (jV L)) ↦[(blkM5 L).view.set]{fullShare} f : sProp 𝕄)
      = ((blkM5 L).view.loc (V d (cV L) (jV L)) ↦[(blkM5 L).view.set]{fullShare} g) :=
  urowsK_congr d L 5 f g h
theorem blk_congr6 (f g : Buf (Elt F) (urowsLoc d))
    (h : ∀ y : S16384x64.Idx, 512 * (wL L).val + 64 * 6 ≤ (y 0).val → (y 0).val < 512 * (wL L).val + 64 * 6 + 64 → f y = g y) :
    ((blkM6 L).view.loc (V d (cV L) (jV L)) ↦[(blkM6 L).view.set]{fullShare} f : sProp 𝕄)
      = ((blkM6 L).view.loc (V d (cV L) (jV L)) ↦[(blkM6 L).view.set]{fullShare} g) :=
  urowsK_congr d L 6 f g h
theorem blk_congr7 (f g : Buf (Elt F) (urowsLoc d))
    (h : ∀ y : S16384x64.Idx, 512 * (wL L).val + 64 * 7 ≤ (y 0).val → (y 0).val < 512 * (wL L).val + 64 * 7 + 64 → f y = g y) :
    ((blkM7 L).view.loc (V d (cV L) (jV L)) ↦[(blkM7 L).view.set]{fullShare} f : sProp 𝕄)
      = ((blkM7 L).view.loc (V d (cV L) (jV L)) ↦[(blkM7 L).view.set]{fullShare} g) :=
  urowsK_congr d L 7 f g h

theorem urowsK_row_lt (k : Fin 8) {y : S16384x64.Idx} (hy : y ∈ (urowsK L k).view.set) :
    (y 0).val - (512 * (wL L).val + 64 * k.val) < 64 := by
  have := (mem_urowsK L k y).mp hy
  omega

/-- What a whole write through block k's view leaves at an index of the block. -/
theorem urowsK_write (k : Fin 8) (f : Buf (Elt F) (urowsLoc d)) (P : S64x64.Idx → F .f32) (y : S16384x64.Idx)
    (hy : y ∈ (urowsK L k).view.set) :
    (urowsK L k).view.write (Elt F) f P Finset.univ y
      = P (ix2 ⟨(y 0).val - (512 * (wL L).val + 64 * k.val), urowsK_row_lt L k hy⟩ (y 1)) := by
  obtain ⟨x, -, rfl⟩ := Finset.mem_map.mp hy
  have hoff := k0_off238_eq L k
  have e0 : (((urowsK L k).view.emb x) 0).val = (1024 * (L 1).val + 512 * (L 0).val + 64 * k.val) + 1 * (x 0).val := by
    show (k0_off238 L (BitVec.ofNat 32 (64 * k.val))) 0 + 1 * (x 0).val = _
    rw [hoff]; rfl
  have e1 : (((urowsK L k).view.emb x) 1).val = 0 + 1 * (x 1).val := by
    show (k0_off238 L (BitVec.ofNat 32 (64 * k.val))) 1 + 1 * (x 1).val = _
    rw [hoff]; rfl
  have hx : (ix2 ⟨(((urowsK L k).view.emb x) 0).val - (512 * (wL L).val + 64 * k.val), urowsK_row_lt L k hy⟩
      (((urowsK L k).view.emb x) 1) : S64x64.Idx) = x := by
    funext a; refine Fin.ext ?_
    have hw := wL_val L
    match a with
    | ⟨0, _⟩ =>
      show (((urowsK L k).view.emb x) 0).val - (512 * (wL L).val + 64 * k.val) = (x 0).val
      omega
    | ⟨1, _⟩ =>
      show (((urowsK L k).view.emb x) 1).val = (x 1).val
      omega
  refine (View.write_emb_of_mem (v := (urowsK L k).view) (Val := Elt F) f P (Finset.mem_univ x)).trans ?_
  refine Eq.trans (b := P x) (cast_eq _ _) ?_
  exact congrArg P hx.symm

theorem blk_row_lt0 {y : S16384x64.Idx} (hy : y ∈ (blkM0 L).view.set) :
    (y 0).val - (512 * (wL L).val + 64 * 0) < 64 := urowsK_row_lt L 0 hy
theorem blk_write0 (f : Buf (Elt F) (urowsLoc d)) (P : S64x64.Idx → F .f32) (y : S16384x64.Idx)
    (hy : y ∈ (blkM0 L).view.set) :
    (blkM0 L).view.write (Elt F) f P Finset.univ y
      = P (ix2 ⟨(y 0).val - (512 * (wL L).val + 64 * 0), blk_row_lt0 L hy⟩ (y 1)) :=
  urowsK_write d L 0 f P y hy
theorem blk_row_lt1 {y : S16384x64.Idx} (hy : y ∈ (blkM1 L).view.set) :
    (y 0).val - (512 * (wL L).val + 64 * 1) < 64 := urowsK_row_lt L 1 hy
theorem blk_write1 (f : Buf (Elt F) (urowsLoc d)) (P : S64x64.Idx → F .f32) (y : S16384x64.Idx)
    (hy : y ∈ (blkM1 L).view.set) :
    (blkM1 L).view.write (Elt F) f P Finset.univ y
      = P (ix2 ⟨(y 0).val - (512 * (wL L).val + 64 * 1), blk_row_lt1 L hy⟩ (y 1)) :=
  urowsK_write d L 1 f P y hy
theorem blk_row_lt2 {y : S16384x64.Idx} (hy : y ∈ (blkM2 L).view.set) :
    (y 0).val - (512 * (wL L).val + 64 * 2) < 64 := urowsK_row_lt L 2 hy
theorem blk_write2 (f : Buf (Elt F) (urowsLoc d)) (P : S64x64.Idx → F .f32) (y : S16384x64.Idx)
    (hy : y ∈ (blkM2 L).view.set) :
    (blkM2 L).view.write (Elt F) f P Finset.univ y
      = P (ix2 ⟨(y 0).val - (512 * (wL L).val + 64 * 2), blk_row_lt2 L hy⟩ (y 1)) :=
  urowsK_write d L 2 f P y hy
theorem blk_row_lt3 {y : S16384x64.Idx} (hy : y ∈ (blkM3 L).view.set) :
    (y 0).val - (512 * (wL L).val + 64 * 3) < 64 := urowsK_row_lt L 3 hy
theorem blk_write3 (f : Buf (Elt F) (urowsLoc d)) (P : S64x64.Idx → F .f32) (y : S16384x64.Idx)
    (hy : y ∈ (blkM3 L).view.set) :
    (blkM3 L).view.write (Elt F) f P Finset.univ y
      = P (ix2 ⟨(y 0).val - (512 * (wL L).val + 64 * 3), blk_row_lt3 L hy⟩ (y 1)) :=
  urowsK_write d L 3 f P y hy
theorem blk_row_lt4 {y : S16384x64.Idx} (hy : y ∈ (blkM4 L).view.set) :
    (y 0).val - (512 * (wL L).val + 64 * 4) < 64 := urowsK_row_lt L 4 hy
theorem blk_write4 (f : Buf (Elt F) (urowsLoc d)) (P : S64x64.Idx → F .f32) (y : S16384x64.Idx)
    (hy : y ∈ (blkM4 L).view.set) :
    (blkM4 L).view.write (Elt F) f P Finset.univ y
      = P (ix2 ⟨(y 0).val - (512 * (wL L).val + 64 * 4), blk_row_lt4 L hy⟩ (y 1)) :=
  urowsK_write d L 4 f P y hy
theorem blk_row_lt5 {y : S16384x64.Idx} (hy : y ∈ (blkM5 L).view.set) :
    (y 0).val - (512 * (wL L).val + 64 * 5) < 64 := urowsK_row_lt L 5 hy
theorem blk_write5 (f : Buf (Elt F) (urowsLoc d)) (P : S64x64.Idx → F .f32) (y : S16384x64.Idx)
    (hy : y ∈ (blkM5 L).view.set) :
    (blkM5 L).view.write (Elt F) f P Finset.univ y
      = P (ix2 ⟨(y 0).val - (512 * (wL L).val + 64 * 5), blk_row_lt5 L hy⟩ (y 1)) :=
  urowsK_write d L 5 f P y hy
theorem blk_row_lt6 {y : S16384x64.Idx} (hy : y ∈ (blkM6 L).view.set) :
    (y 0).val - (512 * (wL L).val + 64 * 6) < 64 := urowsK_row_lt L 6 hy
theorem blk_write6 (f : Buf (Elt F) (urowsLoc d)) (P : S64x64.Idx → F .f32) (y : S16384x64.Idx)
    (hy : y ∈ (blkM6 L).view.set) :
    (blkM6 L).view.write (Elt F) f P Finset.univ y
      = P (ix2 ⟨(y 0).val - (512 * (wL L).val + 64 * 6), blk_row_lt6 L hy⟩ (y 1)) :=
  urowsK_write d L 6 f P y hy
theorem blk_row_lt7 {y : S16384x64.Idx} (hy : y ∈ (blkM7 L).view.set) :
    (y 0).val - (512 * (wL L).val + 64 * 7) < 64 := urowsK_row_lt L 7 hy
theorem blk_write7 (f : Buf (Elt F) (urowsLoc d)) (P : S64x64.Idx → F .f32) (y : S16384x64.Idx)
    (hy : y ∈ (blkM7 L).view.set) :
    (blkM7 L).view.write (Elt F) f P Finset.univ y
      = P (ix2 ⟨(y 0).val - (512 * (wL L).val + 64 * 7), blk_row_lt7 L hy⟩ (y 1)) :=
  urowsK_write d L 7 f P y hy

end Out

end Cert.Proof.KTileU

end
-- ==== Proof.KTileUPneg.lean ====
/-
  The copy-out of the subcore's 40960 partial products.

  Worker w owns entries [40960 w, 40960 w + 40960) of the flat array of 1310720 partial products. A whole write of
  a 40960-entry vector P through the view of that slice leaves P p at entry 40960 w + p; so if P p is the partial
  product the specification puts at entry 40960 w + p, the slice afterwards holds the specified partial products.
-/
import proofs.«218857_g62938450756068_cont_9to1c4b_813_41_alg».proof.Proof.KTileUDefs

noncomputable section

namespace Cert.Proof.KTileU

open Cert.Kernel Cert.Kernel.Gen Cert.Proof.KernelBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

section Pneg

variable (m : (ℓ : Loc nD τ sig) → Buf (Elt F) ℓ) (d : Dev nD) (L : grid0.Coords)

/-- Entry p of worker w's slice is entry 40960 w + p of the flat array. -/
theorem part_inb' (p : S40960.Idx) : 40960 * (wL L).val + (p 0).val < 1310720 := by
  have h : (p 0).val < 40960 := (p 0).isLt
  have hw : (wL L).val < 32 := (wL L).isLt
  omega

/-- Entry x of the slice's view sits at entry 40960 w + x of the flat array. -/
theorem pnegK_emb (x : S40960.Idx) :
    (((pnegK L).view.emb x) 0).val = 40960 * (wL L).val + (x 0).val := by
  have hoff := k0_off1884_eq L
  have hw := wL_val L
  have e0 : (((pnegK L).view.emb x) 0).val = (k0_off1884 L) 0 + 1 * (x 0).val := rfl
  rw [e0, hoff]
  show 81920 * (L 1).val + 40960 * (L 0).val + 1 * (x 0).val = _
  omega

/-- THE COPY-OUT LANDED: the slice after the whole write of the specified partial products holds them. -/
theorem pneg_landed (fp : Buf (Elt F) (pnegLoc d)) (P : S40960.Idx → F .f32)
    (hP : ∀ p : S40960.Idx, P p = pnegF m d (ix1 ⟨40960 * (wL L).val + (p 0).val, part_inb' L p⟩)) :
    (((pnegK L).view.loc (V d (cV L) (jV L)) ↦[(pnegK L).view.set]{fullShare}
        View.write (Elt F) (pnegK L).view fp P Finset.univ : sProp 𝕄))
      = (pnegLoc d ↦[pnegSlice (wL L)]{fullShare} pnegF m d) := by
  have hcongr : ∀ y ∈ (pnegK L).view.set,
      View.write (Elt F) (pnegK L).view fp P Finset.univ y = pnegF m d y := by
    intro y hy
    obtain ⟨x, -, rfl⟩ := Finset.mem_map.mp hy
    refine (View.write_emb_of_mem (v := (pnegK L).view) (Val := Elt F) fp P (Finset.mem_univ x)).trans ?_
    refine Eq.trans (b := P x) (cast_eq _ _) ?_
    rw [hP x]
    refine congrArg (pnegF m d) ?_
    funext a; refine Fin.ext ?_
    match a with
    | ⟨0, _⟩ => exact (pnegK_emb L x).symm
  refine (pointsTo_congr hcongr).trans ?_
  show (pnegLoc d ↦[(pnegK L).view.set]{fullShare} pnegF m d : sProp 𝕄) = _
  rw [set_pnegK]

end Pneg

end Cert.Proof.KTileU

end
-- ==== Proof.KTileUWords.lean ====
/-
  The subcore's index words: what the kernel's first two copies bring into its scratch, and the subcore's own
  buffers spelt as the kernel's memrefs address them.
-/
import proofs.«218857_g62938450756068_cont_9to1c4b_813_41_alg».proof.Proof.KTileUScratch

noncomputable section

namespace Cert.Proof.KTileU

open Cert.Kernel Cert.Kernel.Gen Cert.Proof.KernelBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)

theorem pts_ctxK (f : Buf (Elt F) (ctxLoc d)) :
    ((ctxK L).view.loc (V d (cV L) (jV L)) ↦[(ctxK L).view.set]{fullShare} f : sProp 𝕄) = (ctxLoc d ↦[ctxSlice (wL L)]{fullShare} f) := by
  rw [set_ctxK]
theorem pts_negK (f : Buf (Elt F) (negFlatLoc d)) :
    ((negK L).view.loc (V d (cV L) (jV L)) ↦[(negK L).view.set]{fullShare} f : sProp 𝕄) = (negFlatLoc d ↦[negSlice (wL L)]{fullShare} f) := by
  rw [set_negK]

/-- The subcore's buffers, the five scratch buffers spelt as the kernel's memrefs address them. -/
theorem ownBufs_V' (c : Fin τ.nSC) (i : Fin τ.nSub) :
    (SparseCore.Cfg.ownBufs (V d c i) : sProp 𝕄)
      = iprop(((∃ f, (Memref.whole cc0_scratch0 : Memref sig .scVector .vmem S512 .i32).view.loc (V d c i) ↦{fullShare} f)
          ∗ (∃ f, (Memref.whole cc0_scratch1 : Memref sig .scVector .vmem S2560 .i32).view.loc (V d c i) ↦{fullShare} f)
          ∗ (∃ f, (Memref.whole cc0_scratch2 : Memref sig .scVector .vmem S64x64 .f32).view.loc (V d c i) ↦{fullShare} f)
          ∗ (∃ f, (Memref.whole cc0_scratch3 : Memref sig .scVector .vmem S320x64 .f32).view.loc (V d c i) ↦{fullShare} f)
          ∗ (∃ f, (Memref.whole cc0_scratch4 : Memref sig .scVector .vmem S40960 .f32).view.loc (V d c i) ↦{fullShare} f))
          ∗ bigSep (SparseCore.Cfg.ownRefs (τ := τ) (sig := sig) (.scVector c i) \ bufsU.map (refOf c i)) fun b => iprop(∃ f, ((d, b) : Loc nD τ sig) ↦{fullShare} f)) := by
  rw [ownBufs_V, bigSep_bufsU]

/-! ## The index words the two first copies bring in -/

theorem read_ctxK (f : Buf (Elt F) (ctxLoc d)) (j : S512.Idx) (hj : 512 * (wL L).val + (j 0).val < 16384) :
    (ctxK L).view.read (Elt F) f j = (f : S16384.Idx → BitVec 32) (ix1 ⟨512 * (wL L).val + (j 0).val, hj⟩) := by
  rw [View.read_apply]
  show (f : S16384.Idx → BitVec 32) ((ctxRectK L).emb j) = _
  congr 1; funext a
  match a with
  | ⟨0, _⟩ =>
    apply Fin.ext
    show (k0_off1 L) 0 + 1 * (j 0).val = 512 * (wL L).val + (j 0).val
    rw [k0_off1_eq, wL_val]; simp only [Matrix.cons_val_zero]; omega
theorem read_negK (f : Buf (Elt F) (negFlatLoc d)) (j : S2560.Idx) (hj : 2560 * (wL L).val + (j 0).val < 81920) :
    (negK L).view.read (Elt F) f j = (f : S81920.Idx → BitVec 32) (ix1 ⟨2560 * (wL L).val + (j 0).val, hj⟩) := by
  rw [View.read_apply]
  show (f : S81920.Idx → BitVec 32) ((negRectK L).emb j) = _
  congr 1; funext a
  match a with
  | ⟨0, _⟩ =>
    apply Fin.ext
    show (k0_off2 L) 0 + 1 * (j 0).val = 2560 * (wL L).val + (j 0).val
    rw [k0_off2_eq, wL_val]; simp only [Matrix.cons_val_zero]; omega

theorem ctx_inb (j : S512.Idx) : 512 * (wL L).val + (j 0).val < 16384 := by
  have h1 : (j 0).val < 512 := (j 0).isLt
  have h2 := (wL L).isLt; omega
theorem neg_inb (j : S2560.Idx) : 2560 * (wL L).val + (j 0).val < 81920 := by
  have h1 : (j 0).val < 2560 := (j 0).isLt
  have h2 := (wL L).isLt; omega

/-- What the subcore's 512 context words are; its 2560 negative words. -/
def XsOK (xs : S512.Idx → BitVec 32) : Prop :=
  ∀ j : S512.Idx, xs j = (m (ctxLoc d) : S16384.Idx → BitVec 32) (ix1 ⟨512 * (wL L).val + (j 0).val, ctx_inb L j⟩)
def NsOK (NF : Buf (Elt F) (negFlatLoc d)) (ns : S2560.Idx → BitVec 32) : Prop :=
  ∀ j : S2560.Idx, ns j = (NF : S81920.Idx → BitVec 32) (ix1 ⟨2560 * (wL L).val + (j 0).val, neg_inb L j⟩)

theorem name_xs (P : S512.Idx → BitVec 32) (f0 : Buf (Elt F) ((V d (cV L) (jV L)).loc cc0_scratch0)) (hP : XsOK m d L P) :
    ((Memref.whole cc0_scratch0 : Memref sig .scVector .vmem S512 .i32).view.loc (V d (cV L) (jV L)) ↦{fullShare}
        View.write (Elt F) (Memref.whole cc0_scratch0 : Memref sig .scVector .vmem S512 .i32).view f0 P Finset.univ : sProp 𝕄)
      ⊢ iprop(∃ xs : S512.Idx → BitVec 32, ⌜XsOK m d L xs⌝ ∗ ((V d (cV L) (jV L)).loc cc0_scratch0 ↦{fullShare} xs)) := by
  rw [View.write_whole_univ]
  iintro H; iexists P; isplitr; · ipureintro; exact hP
  iexact H
theorem name_ns (NF : Buf (Elt F) (negFlatLoc d)) (P : S2560.Idx → BitVec 32) (f1 : Buf (Elt F) ((V d (cV L) (jV L)).loc cc0_scratch1)) (hP : NsOK d L NF P) :
    ((Memref.whole cc0_scratch1 : Memref sig .scVector .vmem S2560 .i32).view.loc (V d (cV L) (jV L)) ↦{fullShare}
        View.write (Elt F) (Memref.whole cc0_scratch1 : Memref sig .scVector .vmem S2560 .i32).view f1 P Finset.univ : sProp 𝕄)
      ⊢ iprop(∃ ns : S2560.Idx → BitVec 32, ⌜NsOK d L NF ns⌝ ∗ ((V d (cV L) (jV L)).loc cc0_scratch1 ↦{fullShare} ns)) := by
  rw [View.write_whole_univ]
  iintro H; iexists P; isplitr; · ipureintro; exact hP
  iexact H

theorem xs_lt (hpre : PreOKU m) (xs : S512.Idx → BitVec 32) (hx : XsOK m d L xs) : ∀ j, (xs j).toNat < 1000000 := by
  intro j; rw [hx j]; exact (hpre d).1 _
theorem ns_lt (hpre : PreOKU m) (NF : Buf (Elt F) (negFlatLoc d)) (hNF : IsFlat m d NF) (ns : S2560.Idx → BitVec 32) (hn : NsOK d L NF ns) :
    ∀ j, (ns j).toNat < 1000000 := by
  intro j; rw [hn j]
  have h1 : (j 0).val < 2560 := (j 0).isLt
  have h2 := (wL L).isLt
  have e := hNF ⟨(2560 * (wL L).val + (j 0).val) / 5, by omega⟩ ⟨(2560 * (wL L).val + (j 0).val) % 5, Nat.mod_lt _ (by decide)⟩
  have e2 : (ix1 (⟨5 * ((2560 * (wL L).val + (j 0).val) / 5) + (2560 * (wL L).val + (j 0).val) % 5, by omega⟩ : Fin 81920) : S81920.Idx)
      = ix1 ⟨2560 * (wL L).val + (j 0).val, neg_inb L j⟩ := congrArg ix1 (Fin.ext (Nat.div_add_mod _ 5))
  rw [← e2, e]; exact (hpre d).2 _ _

end Cert.Proof.KTileU

end
-- ==== Proof.KTileUGlue.lean ====
/-
  Small glue for the body's assembly: the recorded waits carried as "some set of waits, all at no index beyond those
  the thread started with", and the subcore's slice of the partial products spelt as the kernel slices it.
-/
import proofs.«218857_g62938450756068_cont_9to1c4b_813_41_alg».proof.Proof.KTileUDrain
import proofs.«218857_g62938450756068_cont_9to1c4b_813_41_alg».proof.Proof.KTileUWords

noncomputable section

namespace Cert.Proof.KTileU

open Cert.Kernel Cert.Kernel.Gen Cert.Proof.KernelBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (O : CellTallies nD τ sig (HIx 2)) (W : Waits sig (HIx 2))

/-- The waits recorded so far, forgotten but for what the thread's obligation asks of them. -/
theorem owes_pack (Wc : Waits sig (HIx 2)) (hW : ∀ p ∈ Wc, p ∈ W ∨ p.2 = none) :
    (owes (V d (cV L) (jV L)) O Wc : sProp 𝕄) ⊢ owesSt (F := F) d L O W := by
  unfold owesSt
  iintro HO; iexists Wc; isplitr; · ipureintro; exact hW
  iexact HO

/-- A wait recorded at no index keeps the fact. -/
theorem hW_ins (Wc : Waits sig (HIx 2)) (hW : ∀ p ∈ Wc, p ∈ W ∨ p.2 = none) (sm : SemLoc sig) :
    ∀ p ∈ insert (sm, (none : HIx 2)) Wc, p ∈ W ∨ p.2 = none := by
  intro p hp
  rcases Finset.mem_insert.mp hp with rfl | hp
  · exact .inr rfl
  · exact hW p hp

theorem pts_pnegK (f : Buf (Elt F) (pnegLoc d)) :
    ((pnegK L).view.loc (V d (cV L) (jV L)) ↦[(pnegK L).view.set]{fullShare} f : sProp 𝕄) = (pnegLoc d ↦[pnegSlice (wL L)]{fullShare} f) := by
  rw [set_pnegK]

end Cert.Proof.KTileU

end
-- ==== Proof.KTileUValue.lean ====
/-
  What the landed staging rows are in terms of the launch memory: the context rows' copy.
-/
import proofs.«218857_g62938450756068_cont_9to1c4b_813_41_alg».proof.Proof.KTileUWords
import proofs.«218857_g62938450756068_cont_9to1c4b_813_41_alg».proof.Proof.KTileULanded

noncomputable section

namespace Cert.Proof.KTileU

open Cert.Kernel Cert.Kernel.Gen Cert.Proof.KernelBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)

theorem chunk_inb (c : Fin 8) (e : Fin 64) : 512 * (wL L).val + (64 * c.val + e.val) < 16384 := by
  have h2 := (wL L).isLt; have := c.isLt; have := e.isLt; omega

/-- The chunk's e-th context word names the table row of batch element 512 w + 64 c + e. -/
theorem xrow_ctxRow (hx : XsOK m d L xs) (c : Fin 8) (e : Fin 64) :
    xrow xs c e.val = ctxRow m d ⟨512 * (wL L).val + (64 * c.val + e.val), chunk_inb L c e⟩ := by
  have h1 : 64 * c.val + e.val < 512 := by have := c.isLt; have := e.isLt; omega
  apply Fin.ext
  unfold xrow ctxRow
  simp only [h1, ↓reduceDIte]
  rw [hx]

/-- The landed staging rows of chunk c are rows 512 w + 64 c … of the copied context rows. -/
theorem FUc_urowsF (hx : XsOK m d L xs) (c : Fin 8) (y : S64x64.Idx) :
    FUc m d L xs c y = urowsF m d (ix2 ⟨512 * (wL L).val + (64 * c.val + (y 0).val), chunk_inb L c (y 0)⟩ (y 1)) := by
  unfold FUc urowsF
  rw [xrow_ctxRow m d L xs hx c (y 0)]

end Cert.Proof.KTileU

end
-- ==== Proof.KTileUElemVal.lean ====
/-
  The partial products the element loop stores are the specified ones: entry 80 (64 c + e) + 16 k + l of the
  subcore's 40960 holds the partial product of batch element 512 w + 64 c + e, negative k, lane l.
-/
import proofs.«218857_g62938450756068_cont_9to1c4b_813_41_alg».proof.Proof.KTileUValue
import proofs.«218857_g62938450756068_cont_9to1c4b_813_41_alg».proof.Proof.KTileUElem

noncomputable section

namespace Cert.Proof.KTileU

open Cert.Kernel Cert.Kernel.Gen Cert.Proof.KernelBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)
variable (xs : S512.Idx → BitVec 32) (ns : S2560.Idx → BitVec 32)

theorem part_inb (p : S40960.Idx) : 40960 * (wL L).val + (p 0).val < 1310720 := by
  have h1 : (p 0).val < 40960 := (p 0).isLt
  have h2 := (wL L).isLt; omega

/-- The subcore's 40960 partial products as specified: entry p is entry 40960 w + p of the whole array. -/
def Gp : S40960.Idx → F .f32 := fun p => pnegF m d (ix1 ⟨40960 * (wL L).val + (p 0).val, part_inb L p⟩)

/-- The chunk's r-th negative word (r = 5 e + k) names the table row of the k-th negative of batch element
    512 w + 64 c + e. -/
theorem nrow_negRow (NF : Buf (Elt F) (negFlatLoc d)) (hNF : IsFlat m d NF) (hn : NsOK d L NF ns) (c : Fin 8) (e : Fin 64) (k : Fin 5) :
    nrow ns c (5 * e.val + k.val) = negRow m d ⟨512 * (wL L).val + (64 * c.val + e.val), chunk_inb L c e⟩ k := by
  have hc := c.isLt; have he := e.isLt; have hk := k.isLt; have hw := (wL L).isLt
  have h1 : 320 * c.val + (5 * e.val + k.val) < 2560 := by omega
  apply Fin.ext
  unfold nrow negRow
  simp only [h1, ↓reduceDIte]
  rw [hn]
  have e2 : (ix1 (⟨2560 * (wL L).val + (320 * c.val + (5 * e.val + k.val)), by omega⟩ : Fin 81920) : S81920.Idx)
      = ix1 ⟨5 * (512 * (wL L).val + (64 * c.val + e.val)) + k.val, by omega⟩ := congrArg ix1 (Fin.ext (by simp only []; omega))
  have e3 := hNF ⟨512 * (wL L).val + (64 * c.val + e.val), chunk_inb L c e⟩ k
  show ((NF : S81920.Idx → BitVec 32) (ix1 ⟨2560 * (wL L).val + (320 * c.val + (5 * e.val + k.val)), _⟩)).toNat % 1000000 = _
  rw [e2, e3]

theorem col_eq (r : Fin 1000000) (a b : ℕ) (ha : a < 64) (hb : b < 64) (h : a = b) :
    (m (euLoc d) : S1000000x64.Idx → F .f32) (ix2 r ⟨a, ha⟩) = (m (euLoc d) : S1000000x64.Idx → F .f32) (ix2 r ⟨b, hb⟩) := by
  subst h; rfl

theorem Gp_elemVal (NF : Buf (Elt F) (negFlatLoc d)) (hNF : IsFlat m d NF) (hx : XsOK m d L xs) (hn : NsOK d L NF ns)
    (c : Fin 8) (e : Fin 64) (k : Fin 5) (l : Fin 16) (h : 80 * (64 * c.val + e.val) + 16 * k.val + l.val < 40960) :
    Gp m d L (ix1 ⟨80 * (64 * c.val + e.val) + 16 * k.val + l.val, h⟩) = elemVal (FUc m d L xs c) (FNc m d L ns c) e k l := by
  have hc := c.isLt; have he := e.isLt; have hk := k.isLt; have hl := l.isLt; have hw := (wL L).isLt
  unfold Gp pnegF
  have eb : (⟨(40960 * (wL L).val + (80 * (64 * c.val + e.val) + 16 * k.val + l.val)) / 80, by omega⟩ : Fin 16384)
      = ⟨512 * (wL L).val + (64 * c.val + e.val), chunk_inb L c e⟩ := Fin.ext (by simp only []; omega)
  have ek : (⟨(40960 * (wL L).val + (80 * (64 * c.val + e.val) + 16 * k.val + l.val)) / 16 % 5, Nat.mod_lt _ (by decide)⟩ : Fin 5) = k :=
    Fin.ext (by simp only []; omega)
  have el : (⟨(40960 * (wL L).val + (80 * (64 * c.val + e.val) + 16 * k.val + l.val)) % 16, Nat.mod_lt _ (by decide)⟩ : Fin 16) = l :=
    Fin.ext (by simp only []; omega)
  show partial1 m d ⟨(40960 * (wL L).val + (80 * (64 * c.val + e.val) + 16 * k.val + l.val)) / 80, _⟩
      ⟨(40960 * (wL L).val + (80 * (64 * c.val + e.val) + 16 * k.val + l.val)) / 16 % 5, _⟩
      ⟨(40960 * (wL L).val + (80 * (64 * c.val + e.val) + 16 * k.val + l.val)) % 16, _⟩ = _
  rw [eb, ek, el]
  unfold partial1 elemVal piece FUc FNc
  rw [← nrow_negRow m d L ns NF hNF hn c e k, ← xrow_ctxRow m d L xs hx c e]
  congr 1
  congr 1
  congr 1
  congr 1
  congr 1
  · exact col_eq m d _ _ _ _ _ (by simp)
  · exact col_eq m d _ _ _ _ _ (by simp)

end Cert.Proof.KTileU

end
-- ==== Proof.KTileUBody.lean ====
/-
  The first SparseCore kernel's body on one vector subcore: the two copies of index words, eight chunks (a batch of
  384 row copies issued and drained, the element loop, the copy-out of the chunk's context rows), the copy-out of the
  partial products.
-/
import proofs.«218857_g62938450756068_cont_9to1c4b_813_41_alg».proof.Proof.KTileUTripC0
import proofs.«218857_g62938450756068_cont_9to1c4b_813_41_alg».proof.Proof.KTileUTripC1
import proofs.«218857_g62938450756068_cont_9to1c4b_813_41_alg».proof.Proof.KTileUTripC2
import proofs.«218857_g62938450756068_cont_9to1c4b_813_41_alg».proof.Proof.KTileUTripC3
import proofs.«218857_g62938450756068_cont_9to1c4b_813_41_alg».proof.Proof.KTileUTripC4
import proofs.«218857_g62938450756068_cont_9to1c4b_813_41_alg».proof.Proof.KTileUTripC5
import proofs.«218857_g62938450756068_cont_9to1c4b_813_41_alg».proof.Proof.KTileUTripC6
import proofs.«218857_g62938450756068_cont_9to1c4b_813_41_alg».proof.Proof.KTileUTripC7
import proofs.«218857_g62938450756068_cont_9to1c4b_813_41_alg».proof.Proof.KTileUDrainLoop
import proofs.«218857_g62938450756068_cont_9to1c4b_813_41_alg».proof.Proof.KTileUDrainC1
import proofs.«218857_g62938450756068_cont_9to1c4b_813_41_alg».proof.Proof.KTileUDrainC2
import proofs.«218857_g62938450756068_cont_9to1c4b_813_41_alg».proof.Proof.KTileUDrainC3
import proofs.«218857_g62938450756068_cont_9to1c4b_813_41_alg».proof.Proof.KTileUDrainC4
import proofs.«218857_g62938450756068_cont_9to1c4b_813_41_alg».proof.Proof.KTileUDrainC5
import proofs.«218857_g62938450756068_cont_9to1c4b_813_41_alg».proof.Proof.KTileUDrainC6
import proofs.«218857_g62938450756068_cont_9to1c4b_813_41_alg».proof.Proof.KTileUDrainC7
import proofs.«218857_g62938450756068_cont_9to1c4b_813_41_alg».proof.Proof.KTileUElemC0
import proofs.«218857_g62938450756068_cont_9to1c4b_813_41_alg».proof.Proof.KTileUElemC1
import proofs.«218857_g62938450756068_cont_9to1c4b_813_41_alg».proof.Proof.KTileUElemC2
import proofs.«218857_g62938450756068_cont_9to1c4b_813_41_alg».proof.Proof.KTileUElemC3
import proofs.«218857_g62938450756068_cont_9to1c4b_813_41_alg».proof.Proof.KTileUElemC4
import proofs.«218857_g62938450756068_cont_9to1c4b_813_41_alg».proof.Proof.KTileUElemC5
import proofs.«218857_g62938450756068_cont_9to1c4b_813_41_alg».proof.Proof.KTileUElemC6
import proofs.«218857_g62938450756068_cont_9to1c4b_813_41_alg».proof.Proof.KTileUElemC7
import proofs.«218857_g62938450756068_cont_9to1c4b_813_41_alg».proof.Proof.KTileULanded
import proofs.«218857_g62938450756068_cont_9to1c4b_813_41_alg».proof.Proof.KTileUOut
import proofs.«218857_g62938450756068_cont_9to1c4b_813_41_alg».proof.Proof.KTileUPneg
import proofs.«218857_g62938450756068_cont_9to1c4b_813_41_alg».proof.Proof.KTileUGlue
import proofs.«218857_g62938450756068_cont_9to1c4b_813_41_alg».proof.Proof.KTileUElemVal

noncomputable section

namespace Cert.Proof.KTileU

open Cert.Kernel Cert.Kernel.Gen Cert.Proof.KernelBase

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid0.Coords)

/-- A chunk's copied-out block of context rows is that block of the specified rows. -/
theorem blk_value (xs : S512.Idx → BitVec 32) (hx : XsOK m d L xs) (c : Fin 8) (P : S64x64.Idx → F .f32) (hP : P = FUc m d L xs c)
    (y : S16384x64.Idx) (h1 : 512 * (wL L).val + 64 * c.val ≤ (y 0).val) (h2 : (y 0).val < 512 * (wL L).val + 64 * c.val + 64)
    (hr : (y 0).val - (512 * (wL L).val + 64 * c.val) < 64) :
    P (ix2 ⟨(y 0).val - (512 * (wL L).val + 64 * c.val), hr⟩ (y 1)) = urowsF m d y := by
  subst hP
  rw [FUc_urowsF m d L xs hx c]
  congr 1
  refine Eq.trans ?_ (eq_ix2 y).symm
  congr 1
  apply Fin.ext
  show 512 * (wL L).val + (64 * c.val + ((y 0).val - (512 * (wL L).val + 64 * c.val))) = (y 0).val
  omega

/- One chunk: the batch allocated; the issue loop; the drain loop; the rows landed; the element loop; the chunk's
   context rows copied out and restated as the specified rows. In scope: the words xs ns with their facts, the current
   contents of the two staging buffers (fuT, fnT), the waits recorded so far (Wc, hWc), the partial products written so
   far (hfp). -/
set_option hygiene false in
macro "kchunk_block" c:num fuT:term:max fnT:term:max trip:ident drain:ident elem:ident v2a:term:max v2b:term:max v2c:term:max lp1:ident lp2:ident lp3:ident osem:ident HuBp:icasesPat HuBs:specPat blkc:ident blkw:ident memb:ident : tactic => `(tactic| (
  imod (Transfers.batch_alloc' (Lvl := ℕ) (countersEmb (U := UU)) (V d (cV L) (jV L)) (none : HIx 2) NR (DU m d L xs ns $c $fuT $fnT) (sm := .dma cc0_scratch5.sem) (E := Set.univ)) $$ Hs5 with HB
  sl_for (fun (k : ℕ) (_ : Unit) => iprop(issueSt m d L xs ns $c $fuT $fnT (96 * k) ∗ ((V d (cV L) (jV L)).loc cc0_scratch0 ↦{fullShare} xs) ∗ ((V d (cV L) (jV L)).loc cc0_scratch1 ↦{fullShare} ns))) $$ [HB HbC HbD Heu HbA HbB]
  · intro k acc; exact $trip m d L xs ns $fuT $fnT hxs hns $v2a k acc
  · unfold issueSt
    rw [show uIdx (96 * 0) = 0 from rfl, show nIdx (96 * 0) = 0 from rfl, uFrom_zero, nFrom_zero, Finset.range_zero, bigSep_empty]
    isplitl [HB HbC HbD Heu]
    · isplitl [HB]; · iexact HB
      isplitl [HbC]; · iexact HbC
      isplitl [HbD]; · iexact HbD
      isplitl [Heu]; · iexact Heu
      iempintro
    isplitl [HbA] <;> iassumption
  rw [show Scf.trips ($lp1).lb ($lp1).ub ($lp1).st = 4 from by decide]
  iintro %acc1 ⟨HS, HbA, HbB⟩
  unfold issueSt
  icases HS with ⟨HB, -, -, Heu, HR⟩
  sl_exec
  ihave HOp := (owes_pack (F := F) d L O W _ ?hw) $$ HO
  case hw => exact hWc
  sl_for (fun (k : ℕ) (_ : Unit) => drainSt m d L xs ns $c $fuT $fnT O W k) $$ [HB HOp]
  · intro k acc; exact $drain m d L xs ns $fuT $fnT O W hO $v2b k acc
  · unfold drainSt
    rw [if_pos (by decide)]
    isplitr; · iexact Hlv
    isplitl [HOp]; · iexact HOp
    rw [show 6 * 0 * NR = 0 by simp]; iexact HB
  rw [show Scf.trips ($lp2).lb ($lp2).ub ($lp2).st = 64 from by decide]
  iintro %acc2 HD
  unfold drainSt owesSt
  rw [if_neg (by decide)]
  icases HD with ⟨-, ⟨%Wc, %hWc, HO⟩, HDU, Hs5⟩
  ihave HC := (collect m d L xs ns $c $fuT $fnT) $$ [HDU HR Heu]
  · isplitl [HDU]; · iexact HDU
    isplitl [HR] <;> iassumption
  icases HC with ⟨HbC, HbD, Heu⟩
  sl_exec
  sl_for (fun (k : ℕ) (_ : Unit) => elemSt d L (FUc m d L xs $c) (FNc m d L ns $c) (Gp m d L) (80 * (64 * $c + k))) $$ [HbC HbD HbE]
  · intro k acc
    exact $elem d L (FUc m d L xs $c) (FNc m d L ns $c) (Gp m d L) (fun e k l => Gp_elemVal m d L xs ns NF hNF hx hn $c e k l _) $v2c k acc
  · unfold elemSt
    isplitl [HbC]; · iexact HbC
    isplitl [HbD]; · iexact HbD
    iexists _; isplitr
    · ipureintro; intro p hp; exact hfp p (by omega)
    · iexact HbE
  rw [show Scf.trips ($lp3).lb ($lp3).ub ($lp3).st = 64 from by decide]
  iintro %acc3 HE3
  unfold elemSt
  icases HE3 with ⟨HbC, HbD, %fpc, %hfp, HbE⟩
  sl_exec
  have hWc := hW_ins W Wc hWc (SemLoc.dma ($osem).sem)
  ihave $HuBp := (Entails.of_eq ($blkc d L _ (urowsF m d) ?hblk)) $$ $HuBs
  case hblk =>
    intro y h1 h2
    rw [← View.write_univ_eq_writes_whole, $blkw d L _ _ y (($memb L y).mpr ⟨h1, h2⟩)]
    exact blk_value m d L xs hx $c _ rfl y h1 h2 _))

set_option maxHeartbeats 16000000 in
set_option maxRecDepth 65536 in
/-- The task of the subcore at grid coordinates L. -/
theorem tile_body_u (hF : (K (F := F)).Facts) (hpre : PreOKU m) (NF : Buf (Elt F) (negFlatLoc d)) (hNF : IsFlat m d NF)
    (O : CellTallies nD τ sig (HIx 2)) (W : Waits sig (HIx 2)) (hO : ∀ g, O g none = 0)
    (fp : Buf (Elt F) (pnegLoc d)) (fu : Buf (Elt F) (urowsLoc d)) :
    iprop(levAts (K (F := F)).L (K (F := F)).lev ∗ emp ∗ goU m d L NF fp fu
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_u_body (F := F) L (Memref.whole main_arg1_scv) (Memref.isWhole_whole _) (Memref.whole main_v0_scv) (Memref.isWhole_whole _) (Memref.whole main_arg4_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 cc0_scoped6 cc0_scoped7 cc0_scoped8 cc0_scoped9 cc0_scoped10)
          fun _ => iprop(tdU m d L NF ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_u_body_eq_skeleton]; unfold cc0__sc_u_body_skel
  rw [(K (F := F)).scopedBufs_V hF d (cV L) (jV L), SparseCore.Cfg.scopedSems0_V (Val := Elt F) d (cV L) (jV L), ownSems0_V, ownBufs_V',
    bigSep_semsU]
  unfold goU
  iintro ⟨#Hlv, -, ⟨Hctx, Hneg, Heu, Hpn, Hur⟩, ⟨⟨⟨%f0, HbA⟩, ⟨%f1, HbB⟩, ⟨%f2, HbC⟩, ⟨%f3, HbD⟩, ⟨%f4, HbE⟩⟩, Hbufs⟩,
    ⟨⟨Hs5, Hr0, Hr1, Hr2, Hr3, Hr4, Hr5, Hr6, Hr7, Hr8, Hr9, Hr10⟩, Hsems⟩, HO⟩
  ihave Hmw := ((K (F := F)).mayWaits_none (thr := V d (cV L) (jV L)) hO) $$ Hlv
  ihave Hctx' := (Entails.of_eq (pts_ctxK (F := F) d L _).symm) $$ Hctx
  ihave Hneg' := (Entails.of_eq (pts_negK (F := F) d L _).symm) $$ Hneg
  ihave Hpn' := (Entails.of_eq (pts_pnegK (F := F) d L _).symm) $$ Hpn
  ihave HuBs := (Entails.of_eq (urows_blocks (F := F) d L fu)) $$ Hur
  icases HuBs with ⟨HuB0, HuB1, HuB2, HuB3, HuB4, HuB5, HuB6, HuB7⟩
  -- the two copies of index words and their waits
  sl_exec
  ihave HA := (name_xs m d L _ f0 ?hPx) $$ HbA
  case hPx => intro j; exact read_ctxK (F := F) d L (m (ctxLoc d)) j _
  ihave HBn := (name_ns d L NF _ f1 ?hPn) $$ HbB
  case hPn => intro j; exact read_negK (F := F) d L NF j _
  icases HA with ⟨%xs, %hx, HbA⟩
  icases HBn with ⟨%ns, %hn, HbB⟩
  have hxs := xs_lt m d L hpre xs hx
  have hns := ns_lt m d L hpre NF hNF ns hn
  have hWc : ∀ p ∈ insert ((SemLoc.dma cc0_scoped1.sem : SemLoc sig), (none : HIx 2)) (insert ((SemLoc.dma cc0_scoped0.sem : SemLoc sig), (none : HIx 2)) W), p ∈ W ∨ p.2 = none :=
    hW_ins W _ (hW_ins W W (fun p hp => .inl hp) _) _
  have hfp : ∀ p : S40960.Idx, (p 0).val < 80 * (64 * 0) → f4 p = Gp m d L p := fun p hp => absurd hp (by omega)
  kchunk_block 0 f2 f3 trip0 drain_trip0 elem_trip0 (0#32) (0#32) (0#32) k0_t1_loop k0_t2_loop k0_t3_loop cc0_scoped2 HuB0 HuB0 blk_congr0 blk_write0 mem_blk0
  kchunk_block 1 (FUc m d L xs 0) (FNc m d L ns 0) trip1 drain_trip1 elem_trip1 (0#32) _ _ k0_t4_loop k0_t5_loop k0_t6_loop cc0_scoped3 HuB1 HuB1 blk_congr1 blk_write1 mem_blk1
  kchunk_block 2 (FUc m d L xs 1) (FNc m d L ns 1) trip2 drain_trip2 elem_trip2 _ _ _ k0_t7_loop k0_t8_loop k0_t9_loop cc0_scoped4 HuB2 HuB2 blk_congr2 blk_write2 mem_blk2
  kchunk_block 3 (FUc m d L xs 2) (FNc m d L ns 2) trip3 drain_trip3 elem_trip3 _ _ _ k0_t10_loop k0_t11_loop k0_t12_loop cc0_scoped5 HuB3 HuB3 blk_congr3 blk_write3 mem_blk3
  kchunk_block 4 (FUc m d L xs 3) (FNc m d L ns 3) trip4 drain_trip4 elem_trip4 _ _ _ k0_t13_loop k0_t14_loop k0_t15_loop cc0_scoped6 HuB4 HuB4 blk_congr4 blk_write4 mem_blk4
  kchunk_block 5 (FUc m d L xs 4) (FNc m d L ns 4) trip5 drain_trip5 elem_trip5 _ _ _ k0_t16_loop k0_t17_loop k0_t18_loop cc0_scoped7 HuB5 HuB5 blk_congr5 blk_write5 mem_blk5
  kchunk_block 6 (FUc m d L xs 5) (FNc m d L ns 5) trip6 drain_trip6 elem_trip6 _ _ _ k0_t19_loop k0_t20_loop k0_t21_loop cc0_scoped8 HuB6 HuB6 blk_congr6 blk_write6 mem_blk6
  kchunk_block 7 (FUc m d L xs 6) (FNc m d L ns 6) trip7 drain_trip7 elem_trip7 (0#32) (0#32) (0#32) k0_t22_loop k0_t23_loop k0_t24_loop cc0_scoped9 HuB7 HuB7 blk_congr7 blk_write7 mem_blk7
  -- the copy-out of the partial products has run with the last chunk's; its wait recorded
  have hWc := hW_ins W _ hWc (SemLoc.dma cc0_scoped10.sem)
  sl_step
  rw [← View.write_univ_eq_writes_whole]
  unfold tdU goU
  isplitl [Hctx' Hneg' Heu Hpn' HuB0 HuB1 HuB2 HuB3 HuB4 HuB5 HuB6 HuB7]
  · isplitl [Hctx']; · iapply (Entails.of_eq (pts_ctxK (F := F) d L _)); iexact Hctx'
    isplitl [Hneg']; · iapply (Entails.of_eq (pts_negK (F := F) d L _)); iexact Hneg'
    isplitl [Heu]; · iexact Heu
    isplitl [Hpn']
    · iapply (Entails.of_eq (pneg_landed m d L _ _ (fun p => hfp p (by have h : (p 0).val < 40960 := (p 0).isLt; omega)))); iexact Hpn'
    · iapply (Entails.of_eq (urows_blocks (F := F) d L (urowsF m d)).symm)
      isplitl [HuB0]; · iexact HuB0
      isplitl [HuB1]; · iexact HuB1
      isplitl [HuB2]; · iexact HuB2
      isplitl [HuB3]; · iexact HuB3
      isplitl [HuB4]; · iexact HuB4
      isplitl [HuB5]; · iexact HuB5
      isplitl [HuB6]; · iexact HuB6
      iexact HuB7
  isplitl [HbA HbB HbC HbD HbE Hbufs]
  · isplitl [HbA HbB HbC HbD HbE]
    · isplitl [HbA]; · iexists _; iexact HbA
      isplitl [HbB]; · iexists _; iexact HbB
      isplitl [HbC]; · iexists _; iexact HbC
      isplitl [HbD]; · iexists _; iexact HbD
      iexists _; iexact HbE
    · iexact Hbufs
  isplitl [Hs5 Hr0 Hr1 Hr2 Hr3 Hr4 Hr5 Hr6 Hr7 Hr8 Hr9 Hr10 Hsems]
  · isplitl [Hs5 Hr0 Hr1 Hr2 Hr3 Hr4 Hr5 Hr6 Hr7 Hr8 Hr9 Hr10]
    · isplitl [Hs5]; · iexact Hs5
      isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      isplitl [Hr7]; · iexact Hr7
      isplitl [Hr8]; · iexact Hr8
      isplitl [Hr9]; · iexact Hr9
      iexact Hr10
    · iexact Hsems
  iexists _; isplitr
  · ipureintro; exact hWc
  · iexact HO

end Cert.Proof.KTileU

end
-- ==== Proof.KTileVMem.lean ====
/-
  The second SparseCore kernel's buffers as one vector subcore addresses them, and how its views of the
  arrays read the slices of `KTileVDefs`.

  The subcore sees the four arrays whole through its own memrefs and cuts its slices out by the printed offset
  functions: centre words `[512w, +512)`, context rows `[512w + 64j, +64)` for each of the eight chunks `j`,
  partial products `[8192w, +8192)`. Its scratch buffers hold 512 index words, 64 gathered table rows, 64
  context rows and 8192 partial products.
-/
import proofs.«218857_g62938450756068_cont_9to1c4b_813_41_alg».proof.Proof.KTileVDefs
import proofs.«218857_g62938450756068_cont_9to1c4b_813_41_alg».proof.Proof.TileVRect

noncomputable section

namespace Cert.Proof.KTileVMem

open Cert.Kernel Cert.Kernel.Gen Cert.Proof.KernelBase Cert.Proof.KTileVDefs

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## The memrefs -/

abbrev cW : Memref sig .scVector .hbm S16384 .i32 := Memref.whole main_arg0_scv
abbrev evW : Memref sig .scVector .hbm S1000000x64 .f32 := Memref.whole main_arg3_scv
abbrev uW : Memref sig .scVector .hbm S16384x64 .f32 := Memref.whole main_v1_1_scv
abbrev pW : Memref sig .scVector .hbm S262144 .f32 := Memref.whole main_v2_scv
abbrev s0 : Memref sig .scVector .vmem S512 .i32 := Memref.whole cc1_scratch0
abbrev s1 : Memref sig .scVector .vmem S64x64 .f32 := Memref.whole cc1_scratch1
abbrev s2 : Memref sig .scVector .vmem S64x64 .f32 := Memref.whole cc1_scratch2
abbrev s3 : Memref sig .scVector .vmem S8192 .f32 := Memref.whole cc1_scratch3

variable (d : Dev nD) (L : grid1.Coords)

/-- The subcore's thread. -/
abbrev thr : Thread nD τ := V d (cV L) (jV L)

/-- The rectangles the body cuts its slices by: the centre words, the context rows of chunk `j`, the partial products. -/
abbrev centerKRect : Rect S16384 := Rect.unit (s := S16384) (k1_off1 L) S512.size (K1.Facts₀.k1_off1_inb L)
abbrev urowsKRect (j : Fin 8) : Rect S16384x64 :=
  Rect.unit (s := S16384x64) (k1_off2 L (BitVec.ofNat 32 (64 * j.val))) S64x64.size (K1.Facts₀.k1_off2_inb L j)
abbrev pposKRect : Rect S262144 := Rect.unit (s := S262144) (k1_off315 L) S8192.size (K1.Facts₀.k1_off315_inb L)

/-- The subcore's centre words, context rows of chunk `j`, and partial products, as the body slices them. -/
def centerK : Memref sig .scVector .hbm S512 .i32 := (cW).slice (centerKRect L) (fun _ => rfl)
def urowsK (j : Fin 8) : Memref sig .scVector .hbm S64x64 .f32 := (uW).slice (urowsKRect L j) (fun _ => rfl)
def pposK : Memref sig .scVector .hbm S8192 .f32 := (pW).slice (pposKRect L) (fun _ => rfl)

/-! ## The slices' element sets -/

theorem mem_centerSlice (w : Fin 32) (y : S16384.Idx) : y ∈ centerSlice w ↔ 512 * w.val ≤ (y 0).val ∧ (y 0).val < 512 * w.val + 512 := by
  have h := TileVRect.mem_part1 (N := 16384) (P := 32) hdiv_center w y
  constructor
  · intro H; have := h.mp H; omega
  · intro H; exact h.mpr (by omega)

theorem mem_urowsSlice (w : Fin 32) (y : S16384x64.Idx) : y ∈ urowsSlice w ↔ 512 * w.val ≤ (y 0).val ∧ (y 0).val < 512 * w.val + 512 := by
  have h := TileVRect.mem_part2 (N := 16384) (M := 64) (P := 32) hdiv_urows w y
  constructor
  · intro H; have := h.mp H; omega
  · intro H; exact h.mpr (by omega)

theorem mem_pposSlice (w : Fin 32) (y : S262144.Idx) : y ∈ pposSlice w ↔ 8192 * w.val ≤ (y 0).val ∧ (y 0).val < 8192 * w.val + 8192 := by
  have h := TileVRect.mem_part1 (N := 262144) (P := 32) hdiv_ppos w y
  constructor
  · intro H; have := h.mp H; omega
  · intro H; exact h.mpr (by omega)

theorem set_centerK_rect : (centerK L).view.set = (centerKRect L).set := by
  unfold centerK
  show ((View.whole (main_arg0_scv : Ref sig .scVector)).slice _).set = _
  rw [View.set_slice_whole]
theorem set_urowsK_rect (j : Fin 8) : (urowsK L j).view.set = (urowsKRect L j).set := by
  unfold urowsK
  show ((View.whole (main_v1_1_scv : Ref sig .scVector)).slice _).set = _
  rw [View.set_slice_whole]
theorem set_pposK_rect : (pposK L).view.set = (pposKRect L).set := by
  unfold pposK
  show ((View.whole (main_v2_scv : Ref sig .scVector)).slice _).set = _
  rw [View.set_slice_whole]

theorem mem_centerKRect (y : S16384.Idx) :
    y ∈ (centerKRect L).set ↔ 512 * (wL L).val ≤ (y 0).val ∧ (y 0).val < 512 * (wL L).val + 512 := by
  have h : y ∈ (centerKRect L).set ↔ 1024 * (L 1).val + 512 * (L 0).val ≤ (y 0).val ∧ (y 0).val < 1024 * (L 1).val + 512 * (L 0).val + 512 := by
    exact TileVRect.mem_run_of_eq (N := 16384) _ _ _ (k1_off1_eq L) _ y
  rw [h, wL_val]; constructor <;> intro H <;> omega

theorem mem_pposKRect (y : S262144.Idx) :
    y ∈ (pposKRect L).set ↔ 8192 * (wL L).val ≤ (y 0).val ∧ (y 0).val < 8192 * (wL L).val + 8192 := by
  have h : y ∈ (pposKRect L).set ↔ 16384 * (L 1).val + 8192 * (L 0).val ≤ (y 0).val ∧ (y 0).val < 16384 * (L 1).val + 8192 * (L 0).val + 8192 := by
    exact TileVRect.mem_run_of_eq (N := 262144) _ _ _ (k1_off315_eq L) _ y
  rw [h, wL_val]; constructor <;> intro H <;> omega

/-- Chunk `j`'s context rows: rows `[512w + 64j, 512w + 64j + 64)`. -/
theorem mem_urowsKRect (j : Fin 8) (y : S16384x64.Idx) :
    y ∈ (urowsKRect L j).set ↔ 512 * (wL L).val + 64 * j.val ≤ (y 0).val ∧ (y 0).val < 512 * (wL L).val + 64 * j.val + 64 := by
  have h : y ∈ (urowsKRect L j).set ↔ 1024 * (L 1).val + 512 * (L 0).val + 64 * j.val ≤ (y 0).val
      ∧ (y 0).val < 1024 * (L 1).val + 512 * (L 0).val + 64 * j.val + 64 := by
    exact TileVRect.mem_rows_of_eq (N := 16384) (M := 64) _ _ _ (k1_off2_eq L j) _ y
  rw [h, wL_val]; constructor <;> intro H <;> omega

theorem centerKRect_set : (centerKRect L).set = centerSlice (wL L) := by
  ext y; rw [mem_centerKRect, mem_centerSlice]
theorem pposKRect_set : (pposKRect L).set = pposSlice (wL L) := by
  ext y; rw [mem_pposKRect, mem_pposSlice]

theorem urowsKRect_disjoint : ∀ j ∈ (Finset.univ : Finset (Fin 8)), ∀ j' ∈ (Finset.univ : Finset (Fin 8)), j ≠ j' →
    Disjoint (urowsKRect L j).set (urowsKRect L j').set := by
  intro j _ j' _ hne
  rw [Finset.disjoint_left]; intro y hy hy'
  rw [mem_urowsKRect] at hy hy'
  exact hne (Fin.ext (by omega))

theorem urowsKRect_cover : (Finset.univ : Finset (Fin 8)).biUnion (fun j => (urowsKRect L j).set) = urowsSlice (wL L) := by
  ext y
  rw [Finset.mem_biUnion, mem_urowsSlice]
  have hy : (y 0).val < 16384 := (y 0).isLt
  constructor
  · rintro ⟨j, -, hj⟩; rw [mem_urowsKRect] at hj; have := j.isLt; omega
  · intro H
    refine ⟨⟨((y 0).val - 512 * (wL L).val) / 64, by omega⟩, Finset.mem_univ _, ?_⟩
    rw [mem_urowsKRect]
    show 512 * (wL L).val + 64 * (((y 0).val - 512 * (wL L).val) / 64) ≤ (y 0).val ∧ (y 0).val < 512 * (wL L).val + 64 * (((y 0).val - 512 * (wL L).val) / 64) + 64
    omega

/-! ## Rows: a copy's destination in the gathered-rows scratch, its source in the table -/

theorem vrow_inb (e : Fin 64) : ∀ a, (![e.val, 0] : Fin 2 → ℕ) a + S1x64.size a ≤ S64x64.size a := by
  have := e.isLt; intro a
  match a with
  | ⟨0, _⟩ => show e.val + 1 ≤ 64; omega
  | ⟨1, _⟩ => show 0 + 64 ≤ 64; omega

/-- Row `e` of the gathered-rows scratch, as the body spells a row copy's destination. -/
def vRow (e : Fin 64) : Memref sig .scVector .vmem S64 .f32 :=
  ((s1).slice (Rect.unit (s := S64x64) ![e.val, 0] S1x64.size (vrow_inb e)) (fun _ => rfl)).squeeze S64 Shapes1.Facts₀.squeezes_S1x64_S64

/-- Row `v` of the table, as the body spells a row copy's source. -/
def evRow (v : BitVec 32) (h : ∀ a, (![v.toNat, 0] : Fin 2 → ℕ) a + S1x64.size a ≤ S1000000x64.size a) : Memref sig .scVector .hbm S64 .f32 :=
  ((evW).slice (Rect.unit (s := S1000000x64) ![v.toNat, 0] S1x64.size h) (fun _ => rfl)).squeeze S64 Shapes1.Facts₀.squeezes_S1x64_S64

/-- One row's credit on the gather semaphore. -/
abbrev NR : ℕ := (vRow 0).view.amount (.dma cc1_scratch4.sem)

/-- Row `e`'s rectangle in the gathered-rows scratch. -/
abbrev vRowRect (e : Fin 64) : Rect S64x64 := Rect.unit (s := S64x64) ![e.val, 0] S1x64.size (vrow_inb e)

theorem set_vRow (e : Fin 64) : (vRow e).view.set = (vRowRect e).set := by
  unfold vRow
  show (((View.whole (cc1_scratch1 : Ref sig .scVector)).slice _).reshape S64 _).set = _
  rw [View.set_reshape, View.set_slice_whole]

theorem mem_vRowRect (e : Fin 64) (y : S64x64.Idx) : y ∈ (vRowRect e).set ↔ (y 0).val = e.val := by
  have h := TileVRect.mem_rows (N := 64) (M := 64) e.val 1 (vrow_inb e) y
  constructor
  · intro H; have := h.mp H; omega
  · intro H; exact h.mpr (by omega)

theorem vRowRect_disjoint : ∀ e ∈ (Finset.univ : Finset (Fin 64)), ∀ e' ∈ (Finset.univ : Finset (Fin 64)), e ≠ e' →
    Disjoint (vRowRect e).set (vRowRect e').set := by
  intro e _ e' _ hne
  rw [Finset.disjoint_left]; intro y hy hy'
  rw [mem_vRowRect] at hy hy'
  exact hne (Fin.ext (by omega))

theorem vRowRect_cover : (Finset.univ : Finset (Fin 64)).biUnion (fun e => (vRowRect e).set) = Finset.univ := by
  ext y
  rw [Finset.mem_biUnion]
  simp only [Finset.mem_univ, true_and, iff_true]
  exact ⟨⟨(y 0).val, (y 0).isLt⟩, (mem_vRowRect _ _).mpr rfl⟩

end Cert.Proof.KTileVMem

end
-- ==== Proof.KTileVInv.lean ====
/-
  The gather of one chunk, as assertions. Chunk `j` (of eight) of a subcore's slice is 64 batch elements; for
  element `t` the kernel copies the table row named by the element's centre word into row `t` of the
  gathered-rows scratch. All 64 copies complete on ONE semaphore and the rows are read only after all 64 waits:
  the copies form a counted batch whose delivery `t` is row `t` landed beside the read share of the source row.

  Each copy reads the whole-held table through a read token of its own (several may read the same row); what a
  token keeps while its row is lent is carried beside the batch until the last wait.
-/
import proofs.«218857_g62938450756068_cont_9to1c4b_813_41_alg».proof.Proof.KTileVMem
import proofs.«218857_g62938450756068_cont_9to1c4b_813_41_alg».proof.Proof.TileVRect
import proofs.«218857_g62938450756068_cont_9to1c4b_813_41_alg».proof.Proof.TileVLand
import Idealize.ShloMosaic.Lib.Ring

noncomputable section

namespace Cert.Proof.KTileVInv

open Cert.Kernel Cert.Kernel.Gen Cert.Proof.KernelBase Cert.Proof.KTileVDefs Cert.Proof.KTileVMem

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable (d : Dev nD) (L : grid1.Coords)

/-- The scratch buffers' and the table's locations on the subcore. -/
abbrev l0 : Loc nD τ sig := (thr d L).loc cc1_scratch0
abbrev l1 : Loc nD τ sig := (thr d L).loc cc1_scratch1
abbrev l2 : Loc nD τ sig := (thr d L).loc cc1_scratch2
abbrev l3 : Loc nD τ sig := (thr d L).loc cc1_scratch3
abbrev lev : Loc nD τ sig := (thr d L).loc main_arg3_scv

variable (cF : Buf (Elt F) (l0 d L)) (hcF : ∀ x : S512.Idx, ((cF : S512.Idx → BitVec 32) x).toNat < 1000000)
variable (ev : Buf (Elt F) (lev d L)) (q : PosShare TreeShare)

/-- The centre word of element `t` of chunk `j`, as the index scratch holds it. -/
def wd (j : Fin 8) (t : Fin 64) : BitVec 32 :=
  (cF : S512.Idx → BitVec 32) (ix1 (⟨64 * j.val + t.val, by have := j.isLt; have := t.isLt; omega⟩ : Fin 512))

include hcF in
theorem wd_inb (j : Fin 8) (t : Fin 64) : ∀ a, (![(wd d L cF j t).toNat, 0] : Fin 2 → ℕ) a + S1x64.size a ≤ S1000000x64.size a :=
  TileVRect.row_inb _ (hcF _)

/-- The table row element `t` of chunk `j` names. -/
def rowAt (j : Fin 8) (t : Fin 64) : Fin 1000000 := ⟨(wd d L cF j t).toNat % 1000000, Nat.mod_lt _ (by decide)⟩

/-- What chunk `j`'s gathered rows hold once every copy has landed: row `t` is the table's row `rowAt j t`. -/
def gath (j : Fin 8) : Buf (Elt F) (l1 d L) := fun y : S64x64.Idx =>
  (ev : S1000000x64.Idx → F .f32) (ix2 (rowAt d L cF j (⟨(y 0).val, (y 0).isLt⟩ : Fin 64)) (⟨(y 1).val, (y 1).isLt⟩ : Fin 64))

/-- Row `v`'s rectangle in the table. -/
abbrev evRowRect (v : BitVec 32) (h : ∀ a, (![v.toNat, 0] : Fin 2 → ℕ) a + S1x64.size a ≤ S1000000x64.size a) : Rect S1000000x64 :=
  Rect.unit (s := S1000000x64) ![v.toNat, 0] S1x64.size h

/-- Delivery `t` of chunk `j`'s batch: row `t` of the scratch at its landed contents, and the source row's read share. -/
def Dv (j : Fin 8) (t : Fin 64) : sProp 𝕄 :=
  iprop((l1 d L ↦[(vRowRect t).set]{fullShare} gath d L cF ev j)
    ∗ (lev d L ↦[(evRowRect (wd d L cF j t) (wd_inb d L cF hcF j t)).set]{Transfers.shareTokN q t.val} ev))

instance Dv_storable (j : Fin 8) (t : Fin 64) : BI.Storable (upEmb : UEmb _ 𝕄) (Dv d L cF hcF ev q j t) := by
  unfold Dv; infer_instance

/-- Chunk `j`'s batch on the gather semaphore: `k` copies issued, `u` units consumed. -/
abbrev batch (j : Fin 8) (k u : ℕ) : sProp 𝕄 :=
  Transfers.Batch (countersEmb (U := UU)) (thr d L) (.dma cc1_scratch4.sem) (none : HIx 2) NR (Dv d L cF hcF ev q j) k u

/-- Row `t` of the scratch owned at some contents; read token `t` whole; what token `t` keeps while its row is lent. -/
abbrev rowOwn (t : Fin 64) : sProp 𝕄 := iprop(∃ f, (vRow t).view.loc (thr d L) ↦[(vRow t).view.set]{fullShare} f)
abbrev tok (t : Fin 64) : sProp 𝕄 := (evW).view.loc (thr d L) ↦[(evW).view.set]{Transfers.shareTokN q t.val} ev
abbrev tokRest (j : Fin 8) (t : Fin 64) : sProp 𝕄 :=
  (evW).view.loc (thr d L) ↦[(evW).view.set \ (evRow (wd d L cF j t) (wd_inb d L cF hcF j t)).view.set]{Transfers.shareTokN q t.val} ev

/-- Before trip `g` of chunk `j`'s issue loop: `16g` copies issued and none waited for; the index scratch; the rows
    and tokens from `16g` on still in hand; what the tokens before `16g` keep. -/
def issueAt (j : Fin 8) (g : ℕ) (_ : Unit) : sProp 𝕄 :=
  iprop(batch d L cF hcF ev q j (16 * g) 0
    ∗ ((s0).view.loc (thr d L) ↦{fullShare} cF)
    ∗ bigSep (Ring.rangeSet 64 (16 * g) 64) (rowOwn d L)
    ∗ bigSep (Ring.rangeSet 64 (16 * g) 64) (tok d L ev q)
    ∗ bigSep (Ring.rangeSet 64 0 (16 * g)) (tokRest d L cF hcF ev q j))

end Cert.Proof.KTileVInv

end
-- ==== Proof.KTileVDrain.lean ====
/-
  The drain of one chunk's gather. After the 64 row copies of a chunk have been issued on the one gather
  semaphore, the kernel waits 64 times, each wait for one row's amount; no row is read in between. Before the
  k-th wait the batch has had k rows' units consumed; the last wait empties the semaphore and hands every
  delivery back at once: each scratch row at the table row it was copied from, beside that row's read share.
-/
import proofs.«218857_g62938450756068_cont_9to1c4b_813_41_alg».proof.Proof.KTileVInv

noncomputable section

namespace Cert.Proof.KTileVDrain

open Cert.Kernel Cert.Kernel.Gen Cert.Proof.KernelBase Cert.Proof.KTileVDefs Cert.Proof.KTileVMem Cert.Proof.KTileVInv

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (L : grid1.Coords)
variable (cF : Buf (Elt F) (l0 d L)) (hcF : ∀ x : S512.Idx, ((cF : S512.Idx → BitVec 32) x).toNat < 1000000)
variable (ev : Buf (Elt F) (lev d L)) (q : PosShare TreeShare)

/-- One row's credit on the gather semaphore is 2048 units. -/
theorem NR_eq : NR = 2048 := rfl

/-- Before the k-th wait of chunk j's drain: k ≤ 64; the subcore may wait; the waits so far recorded; and either
    (k < 64) the batch of 64 issued copies with k rows' units consumed, or (k = 64) the semaphore at zero and
    every delivery. -/
def drainAt (j : Fin 8) (O : CellTallies nD τ sig (HIx 2)) (W : Waits sig (HIx 2)) (k : ℕ) (_ : Unit) : sProp 𝕄 :=
  iprop(⌜k ≤ 64⌝ ∗ Transfers.MayWaits (thr d L) (none : HIx 2) O
    ∗ (∃ W', ⌜∀ p ∈ W', p ∈ W ∨ p.2 = none⌝ ∗ owes (thr d L) O W')
    ∗ (if k < 64 then batch d L cF hcF ev q j 64 (k * NR)
       else iprop(semVal (thr d L, SemLoc.dma cc1_scratch4.sem) 0 ∗ bigSep Finset.univ (Dv d L cF hcF ev q j))))

/-- One wait of chunk 0's drain at a symbolic k: before the last (k + 1 < 64) it only consumes a row's units; the
    last (k + 1 = 64) empties the semaphore and hands back every delivery. -/
theorem drain_step0 [∀ e, Nonempty (Elt F e)] (O : CellTallies nD τ sig (HIx 2)) (W : Waits sig (HIx 2))
    (k : Fin k1_t2_loop.trips) (acc : Unit) :
    drainAt d L cF hcF ev q 0 O W k.val acc
      ⊢ wp frame (wpE (defs₀ (F := F)) 𝒱₀ (thr d L) none) Set.univ
          (k1_t2_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 k acc)
          (drainAt d L cF hcF ev q 0 O W (k.val + 1)) := by
  have hk : k.val < 64 := k.isLt
  unfold drainAt
  simp only [if_pos hk]
  rcases Nat.lt_or_ge (k.val + 1) 64 with h1 | h1
  · simp only [if_pos h1]
    rw [NR_eq]
    iintro ⟨-, Hmw, ⟨%W', %hW', HO⟩, HB⟩
    sl_unfold [k1_t2_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    rw [show (k.val + 1) * 2048 = k.val * 2048 + 2048 by omega]
    iexact HB
  · simp only [if_neg (Nat.not_lt.mpr h1)]
    rw [NR_eq]
    iintro ⟨-, Hmw, ⟨%W', %hW', HO⟩, HB⟩
    sl_unfold [k1_t2_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    isplitl [HB]; · iexact HB
    iexact HB_all

/-- One wait of chunk 1's drain at a symbolic k: before the last (k + 1 < 64) it only consumes a row's units; the
    last (k + 1 = 64) empties the semaphore and hands back every delivery. -/
theorem drain_step1 [∀ e, Nonempty (Elt F e)] (O : CellTallies nD τ sig (HIx 2)) (W : Waits sig (HIx 2))
    (v2 c0 : BitVec 32) (k : Fin k1_t5_loop.trips) (acc : Unit) :
    drainAt d L cF hcF ev q 1 O W k.val acc
      ⊢ wp frame (wpE (defs₀ (F := F)) 𝒱₀ (thr d L) none) Set.univ
          (k1_t5_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 c0 k acc)
          (drainAt d L cF hcF ev q 1 O W (k.val + 1)) := by
  have hk : k.val < 64 := k.isLt
  unfold drainAt
  simp only [if_pos hk]
  rcases Nat.lt_or_ge (k.val + 1) 64 with h1 | h1
  · simp only [if_pos h1]
    rw [NR_eq]
    iintro ⟨-, Hmw, ⟨%W', %hW', HO⟩, HB⟩
    sl_unfold [k1_t5_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    rw [show (k.val + 1) * 2048 = k.val * 2048 + 2048 by omega]
    iexact HB
  · simp only [if_neg (Nat.not_lt.mpr h1)]
    rw [NR_eq]
    iintro ⟨-, Hmw, ⟨%W', %hW', HO⟩, HB⟩
    sl_unfold [k1_t5_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    isplitl [HB]; · iexact HB
    iexact HB_all

/-- One wait of chunk 2's drain at a symbolic k: before the last (k + 1 < 64) it only consumes a row's units; the
    last (k + 1 = 64) empties the semaphore and hands back every delivery. -/
theorem drain_step2 [∀ e, Nonempty (Elt F e)] (O : CellTallies nD τ sig (HIx 2)) (W : Waits sig (HIx 2))
    (v2 c0 : BitVec 32) (k : Fin k1_t8_loop.trips) (acc : Unit) :
    drainAt d L cF hcF ev q 2 O W k.val acc
      ⊢ wp frame (wpE (defs₀ (F := F)) 𝒱₀ (thr d L) none) Set.univ
          (k1_t8_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 c0 k acc)
          (drainAt d L cF hcF ev q 2 O W (k.val + 1)) := by
  have hk : k.val < 64 := k.isLt
  unfold drainAt
  simp only [if_pos hk]
  rcases Nat.lt_or_ge (k.val + 1) 64 with h1 | h1
  · simp only [if_pos h1]
    rw [NR_eq]
    iintro ⟨-, Hmw, ⟨%W', %hW', HO⟩, HB⟩
    sl_unfold [k1_t8_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    rw [show (k.val + 1) * 2048 = k.val * 2048 + 2048 by omega]
    iexact HB
  · simp only [if_neg (Nat.not_lt.mpr h1)]
    rw [NR_eq]
    iintro ⟨-, Hmw, ⟨%W', %hW', HO⟩, HB⟩
    sl_unfold [k1_t8_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    isplitl [HB]; · iexact HB
    iexact HB_all

/-- One wait of chunk 3's drain at a symbolic k: before the last (k + 1 < 64) it only consumes a row's units; the
    last (k + 1 = 64) empties the semaphore and hands back every delivery. -/
theorem drain_step3 [∀ e, Nonempty (Elt F e)] (O : CellTallies nD τ sig (HIx 2)) (W : Waits sig (HIx 2))
    (v2 : BitVec 32) (k : Fin k1_t11_loop.trips) (acc : Unit) :
    drainAt d L cF hcF ev q 3 O W k.val acc
      ⊢ wp frame (wpE (defs₀ (F := F)) 𝒱₀ (thr d L) none) Set.univ
          (k1_t11_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 k acc)
          (drainAt d L cF hcF ev q 3 O W (k.val + 1)) := by
  have hk : k.val < 64 := k.isLt
  unfold drainAt
  simp only [if_pos hk]
  rcases Nat.lt_or_ge (k.val + 1) 64 with h1 | h1
  · simp only [if_pos h1]
    rw [NR_eq]
    iintro ⟨-, Hmw, ⟨%W', %hW', HO⟩, HB⟩
    sl_unfold [k1_t11_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    rw [show (k.val + 1) * 2048 = k.val * 2048 + 2048 by omega]
    iexact HB
  · simp only [if_neg (Nat.not_lt.mpr h1)]
    rw [NR_eq]
    iintro ⟨-, Hmw, ⟨%W', %hW', HO⟩, HB⟩
    sl_unfold [k1_t11_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    isplitl [HB]; · iexact HB
    iexact HB_all

/-- One wait of chunk 4's drain at a symbolic k: before the last (k + 1 < 64) it only consumes a row's units; the
    last (k + 1 = 64) empties the semaphore and hands back every delivery. -/
theorem drain_step4 [∀ e, Nonempty (Elt F e)] (O : CellTallies nD τ sig (HIx 2)) (W : Waits sig (HIx 2))
    (v2 : BitVec 32) (k : Fin k1_t14_loop.trips) (acc : Unit) :
    drainAt d L cF hcF ev q 4 O W k.val acc
      ⊢ wp frame (wpE (defs₀ (F := F)) 𝒱₀ (thr d L) none) Set.univ
          (k1_t14_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 k acc)
          (drainAt d L cF hcF ev q 4 O W (k.val + 1)) := by
  have hk : k.val < 64 := k.isLt
  unfold drainAt
  simp only [if_pos hk]
  rcases Nat.lt_or_ge (k.val + 1) 64 with h1 | h1
  · simp only [if_pos h1]
    rw [NR_eq]
    iintro ⟨-, Hmw, ⟨%W', %hW', HO⟩, HB⟩
    sl_unfold [k1_t14_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    rw [show (k.val + 1) * 2048 = k.val * 2048 + 2048 by omega]
    iexact HB
  · simp only [if_neg (Nat.not_lt.mpr h1)]
    rw [NR_eq]
    iintro ⟨-, Hmw, ⟨%W', %hW', HO⟩, HB⟩
    sl_unfold [k1_t14_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    isplitl [HB]; · iexact HB
    iexact HB_all

/-- One wait of chunk 5's drain at a symbolic k: before the last (k + 1 < 64) it only consumes a row's units; the
    last (k + 1 = 64) empties the semaphore and hands back every delivery. -/
theorem drain_step5 [∀ e, Nonempty (Elt F e)] (O : CellTallies nD τ sig (HIx 2)) (W : Waits sig (HIx 2))
    (v2 : BitVec 32) (k : Fin k1_t17_loop.trips) (acc : Unit) :
    drainAt d L cF hcF ev q 5 O W k.val acc
      ⊢ wp frame (wpE (defs₀ (F := F)) 𝒱₀ (thr d L) none) Set.univ
          (k1_t17_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 k acc)
          (drainAt d L cF hcF ev q 5 O W (k.val + 1)) := by
  have hk : k.val < 64 := k.isLt
  unfold drainAt
  simp only [if_pos hk]
  rcases Nat.lt_or_ge (k.val + 1) 64 with h1 | h1
  · simp only [if_pos h1]
    rw [NR_eq]
    iintro ⟨-, Hmw, ⟨%W', %hW', HO⟩, HB⟩
    sl_unfold [k1_t17_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    rw [show (k.val + 1) * 2048 = k.val * 2048 + 2048 by omega]
    iexact HB
  · simp only [if_neg (Nat.not_lt.mpr h1)]
    rw [NR_eq]
    iintro ⟨-, Hmw, ⟨%W', %hW', HO⟩, HB⟩
    sl_unfold [k1_t17_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    isplitl [HB]; · iexact HB
    iexact HB_all

/-- One wait of chunk 6's drain at a symbolic k: before the last (k + 1 < 64) it only consumes a row's units; the
    last (k + 1 = 64) empties the semaphore and hands back every delivery. -/
theorem drain_step6 [∀ e, Nonempty (Elt F e)] (O : CellTallies nD τ sig (HIx 2)) (W : Waits sig (HIx 2))
    (v2 : BitVec 32) (k : Fin k1_t20_loop.trips) (acc : Unit) :
    drainAt d L cF hcF ev q 6 O W k.val acc
      ⊢ wp frame (wpE (defs₀ (F := F)) 𝒱₀ (thr d L) none) Set.univ
          (k1_t20_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 k acc)
          (drainAt d L cF hcF ev q 6 O W (k.val + 1)) := by
  have hk : k.val < 64 := k.isLt
  unfold drainAt
  simp only [if_pos hk]
  rcases Nat.lt_or_ge (k.val + 1) 64 with h1 | h1
  · simp only [if_pos h1]
    rw [NR_eq]
    iintro ⟨-, Hmw, ⟨%W', %hW', HO⟩, HB⟩
    sl_unfold [k1_t20_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    rw [show (k.val + 1) * 2048 = k.val * 2048 + 2048 by omega]
    iexact HB
  · simp only [if_neg (Nat.not_lt.mpr h1)]
    rw [NR_eq]
    iintro ⟨-, Hmw, ⟨%W', %hW', HO⟩, HB⟩
    sl_unfold [k1_t20_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    isplitl [HB]; · iexact HB
    iexact HB_all

/-- One wait of chunk 7's drain at a symbolic k: before the last (k + 1 < 64) it only consumes a row's units; the
    last (k + 1 = 64) empties the semaphore and hands back every delivery. -/
theorem drain_step7 [∀ e, Nonempty (Elt F e)] (O : CellTallies nD τ sig (HIx 2)) (W : Waits sig (HIx 2))
    (k : Fin k1_t23_loop.trips) (acc : Unit) :
    drainAt d L cF hcF ev q 7 O W k.val acc
      ⊢ wp frame (wpE (defs₀ (F := F)) 𝒱₀ (thr d L) none) Set.univ
          (k1_t23_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 k acc)
          (drainAt d L cF hcF ev q 7 O W (k.val + 1)) := by
  have hk : k.val < 64 := k.isLt
  unfold drainAt
  simp only [if_pos hk]
  rcases Nat.lt_or_ge (k.val + 1) 64 with h1 | h1
  · simp only [if_pos h1]
    rw [NR_eq]
    iintro ⟨-, Hmw, ⟨%W', %hW', HO⟩, HB⟩
    sl_unfold [k1_t23_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    rw [show (k.val + 1) * 2048 = k.val * 2048 + 2048 by omega]
    iexact HB
  · simp only [if_neg (Nat.not_lt.mpr h1)]
    rw [NR_eq]
    iintro ⟨-, Hmw, ⟨%W', %hW', HO⟩, HB⟩
    sl_unfold [k1_t23_body]
    sl_exec
    sl_step
    isplitr; · ipureintro; omega
    isplitl [Hmw]; · iexact Hmw
    isplitl [HO]
    · iexists _; isplitr
      rotate_left
      · iexact HO
      · ipureintro; intro p hp
        rcases Finset.mem_insert.mp hp with hp | hp
        · exact .inr (hp ▸ rfl)
        · exact hW' p hp
    isplitl [HB]; · iexact HB
    iexact HB_all

/-! ## Every delivery back: the gathered rows whole, the table's read tokens whole -/

/-- A table row as the copy's source spells it has the row's rectangle as its element set. -/
theorem set_evRow' (v : BitVec 32) (h : ∀ a, (![v.toNat, 0] : Fin 2 → ℕ) a + S1x64.size a ≤ S1000000x64.size a) :
    (evRow v h).view.set = (evRowRect v h).set := by
  unfold evRow
  show (((View.whole (main_arg3_scv : Ref sig .scVector)).slice _).reshape S64 _).set = _
  rw [View.set_reshape, View.set_slice_whole]

/-- Once the last wait has handed every delivery back: the 64 landed rows are the gathered-rows scratch whole at
    chunk j's rows, and each read token's lent row rejoins what the token kept. -/
theorem collect [∀ e, Nonempty (Elt F e)] (j : Fin 8) :
    iprop(bigSep Finset.univ (Dv d L cF hcF ev q j) ∗ bigSep (Ring.rangeSet 64 0 64) (tokRest d L cF hcF ev q j))
      ⊢ iprop((l1 d L ↦{fullShare} gath d L cF ev j)
          ∗ bigSep (Finset.range 64) (fun t => lev d L ↦{Transfers.shareTokN q t} ev)) := by
  rw [Ring.rangeSet_univ]
  iintro ⟨HD, HR⟩
  ihave HD' := (show bigSep Finset.univ (Dv d L cF hcF ev q j)
      ⊢ iprop(bigSep Finset.univ (fun t : Fin 64 => (l1 d L ↦[(vRowRect t).set]{fullShare} gath d L cF ev j : sProp 𝕄))
        ∗ bigSep Finset.univ (fun t : Fin 64 =>
            (lev d L ↦[(evRowRect (wd d L cF j t) (wd_inb d L cF hcF j t)).set]{Transfers.shareTokN q t.val} ev : sProp 𝕄)))
    from Entails.of_eq (BI.bigSep_sep _ _ _)) $$ HD
  icases HD' with ⟨HA, HBs⟩
  isplitl [HA]
  · iapply (Entails.of_eq ((pointsTo_biUnion (ℓ := l1 d L) (q := fullShare) (f := gath d L cF ev j) Finset.univ
      (fun t : Fin 64 => (vRowRect t).set) vRowRect_disjoint).symm.trans (by rw [vRowRect_cover])))
    iexact HA
  · ihave H := (show iprop(bigSep Finset.univ (fun t : Fin 64 =>
            (lev d L ↦[(evRowRect (wd d L cF j t) (wd_inb d L cF hcF j t)).set]{Transfers.shareTokN q t.val} ev : sProp 𝕄))
          ∗ bigSep Finset.univ (tokRest d L cF hcF ev q j))
        ⊢ bigSep Finset.univ (fun t : Fin 64 =>
            iprop((lev d L ↦[(evRowRect (wd d L cF j t) (wd_inb d L cF hcF j t)).set]{Transfers.shareTokN q t.val} ev : sProp 𝕄)
              ∗ tokRest d L cF hcF ev q j t))
      from Entails.of_eq (BI.bigSep_sep _ _ _).symm) $$ [HBs HR]
    · isplitl [HBs] <;> iassumption
    iapply (Entails.of_eq (Ring.bigSep_fin_eq_range 64 (fun t : Fin 64 => (lev d L ↦{Transfers.shareTokN q t.val} ev : sProp 𝕄))
      (fun t => (lev d L ↦{Transfers.shareTokN q t} ev : sProp 𝕄)) (fun t h => rfl)))
    iapply (show bigSep Finset.univ (fun t : Fin 64 =>
            iprop((lev d L ↦[(evRowRect (wd d L cF j t) (wd_inb d L cF hcF j t)).set]{Transfers.shareTokN q t.val} ev : sProp 𝕄)
              ∗ tokRest d L cF hcF ev q j t))
        ⊢ bigSep Finset.univ (fun t : Fin 64 => (lev d L ↦{Transfers.shareTokN q t.val} ev : sProp 𝕄))
      from BI.bigSep_mono fun t _ => by
        have hS : (evW).view.set = (Finset.univ : Finset S1000000x64.Idx) := (Memref.isWhole_whole _).set_eq_univ
        unfold tokRest
        rw [set_evRow', hS]
        exact (pointsTo_split_subset (ℓ := lev d L) (q := Transfers.shareTokN q t.val) (f := ev)
          (I := (evRowRect (wd d L cF j t) (wd_inb d L cF hcF j t)).set) (S := Finset.univ) (Finset.subset_univ _)).2)
    iexact H

end Cert.Proof.KTileVDrain

end
-- ==== Proof.KTileVScratch.lean ====
/-
  A vector subcore's own scratch for the second kernel: its four buffers and its eleven DMA semaphores, taken out
  of everything the subcore owns (and put back by the same equations).
-/
import proofs.«218857_g62938450756068_cont_9to1c4b_813_41_alg».proof.Proof.KTileVDefs

noncomputable section

namespace Cert.Proof.KTileVScratch

open Cert.Kernel Cert.Kernel.Gen Cert.Proof.KernelBase

open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-- The kernel's gather semaphore and the ten of its scoped regions. -/
def semsV : Finset (DmaSem sig) :=
  {cc1_scratch4.sem, cc1_scoped0.sem, cc1_scoped1.sem, cc1_scoped2.sem, cc1_scoped3.sem, cc1_scoped4.sem, cc1_scoped5.sem,
    cc1_scoped6.sem, cc1_scoped7.sem, cc1_scoped8.sem, cc1_scoped9.sem}

/-- A subcore's cell of a DMA semaphore. -/
def cellOf (thr : Thread nD τ) : DmaSem sig ↪ GSem nD τ sig :=
  ⟨fun s => (thr, SemLoc.dma s), fun a b h => by
    have h2 : (SemLoc.dma a : SemLoc sig) = SemLoc.dma b := congrArg Prod.snd h
    injection h2⟩

theorem semsV_scoped : ∀ s ∈ semsV, sig.isScopedDmaSem .scVector s = true := by decide

theorem semsV_sub (d : Dev nD) (c : Fin τ.nSC) (i : Fin τ.nSub) : semsV.map (cellOf (V d c i)) ⊆ ownCells (V d c i) := by
  intro g hg
  obtain ⟨s, hs, rfl⟩ := Finset.mem_map.mp hg
  exact mem_ownCells.mpr ⟨rfl, semsV_scoped s hs⟩

theorem bigSep_semsV (Φ : DmaSem sig → sProp 𝕄) :
    bigSep semsV Φ = iprop(Φ cc1_scratch4.sem ∗ Φ cc1_scoped0.sem ∗ Φ cc1_scoped1.sem ∗ Φ cc1_scoped2.sem ∗ Φ cc1_scoped3.sem ∗ Φ cc1_scoped4.sem
      ∗ Φ cc1_scoped5.sem ∗ Φ cc1_scoped6.sem ∗ Φ cc1_scoped7.sem ∗ Φ cc1_scoped8.sem ∗ Φ cc1_scoped9.sem) := by
  unfold semsV
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The subcore's semaphores at zero: the eleven, and the rest. -/
theorem ownSems0_V (d : Dev nD) (c : Fin τ.nSC) (i : Fin τ.nSub) :
    (ownSems0 (V d c i) : sProp 𝕄)
      = iprop(bigSep semsV (fun s => semVal ((V d c i, SemLoc.dma s) : GSem nD τ sig) 0)
          ∗ bigSep (ownCells (V d c i) \ semsV.map (cellOf (V d c i))) fun g => semVal g 0) := by
  unfold SparseCore.Cfg.ownSems0
  rw [SparseCore.bigSep_sdiff_split' (semsV_sub d c i), BI.bigSep_map]
  rfl

/-- The four scratch buffers. -/
def bufsV : Finset (Ref sig .scVector) := {cc1_scratch0, cc1_scratch1, cc1_scratch2, cc1_scratch3}

def refOf (c : Fin τ.nSC) (i : Fin τ.nSub) : Ref sig .scVector ↪ DevRef τ sig :=
  ⟨(Proc.scVector c i).devRef, Proc.devRef_injective _⟩

theorem bufsV_sub (c : Fin τ.nSC) (i : Fin τ.nSub) : bufsV.map (refOf c i) ⊆ ownRefs (τ := τ) (sig := sig) (.scVector c i) := by
  intro b hb
  obtain ⟨r, hr, rfl⟩ := Finset.mem_map.mp hb
  have : ∀ r ∈ bufsV, ((Proc.scVector c i).devRef r).owner = .proc (Proc.scVector c i) := by
    intro r hr
    simp only [bufsV, Finset.mem_insert, Finset.mem_singleton] at hr
    rcases hr with rfl | rfl | rfl | rfl <;> rfl
  exact SparseCore.Cfg.mem_ownRefs_of_owner (this r hr)

theorem bigSep_bufsV (Φ : Ref sig .scVector → sProp 𝕄) :
    bigSep bufsV Φ = iprop(Φ cc1_scratch0 ∗ Φ cc1_scratch1 ∗ Φ cc1_scratch2 ∗ Φ cc1_scratch3) := by
  unfold bufsV
  rw [SparseCore.bigSep_insert' (by decide), SparseCore.bigSep_insert' (by decide), SparseCore.bigSep_insert' (by decide),
    bigSep_singleton]

/-- The subcore's buffers: the four scratch buffers at some contents, and the rest. -/
theorem ownBufs_V (d : Dev nD) (c : Fin τ.nSC) (i : Fin τ.nSub) :
    (ownBufs (V d c i) : sProp 𝕄)
      = iprop(bigSep bufsV (fun r => iprop(∃ f, (V d c i).loc r ↦{fullShare} f))
          ∗ bigSep (ownRefs (τ := τ) (sig := sig) (.scVector c i) \ bufsV.map (refOf c i)) fun b => iprop(∃ f, ((d, b) : Loc nD τ sig) ↦{fullShare} f)) := by
  unfold SparseCore.Cfg.ownBufs
  rw [SparseCore.bigSep_sdiff_split' (bufsV_sub c i), BI.bigSep_map]
  rfl

end Cert.Proof.KTileVScratch

end
-- ==== Proof.KTileV.lean ====
/-
  The second SparseCore kernel on one vector subcore, assembled from its loops.

  The kernel copies the subcore's 512 centre words into its index scratch, then works through eight chunks of 64
  batch elements: it copies the chunk's 64 context rows into a scratch, starts 64 copies of the table rows named
  by the chunk's centre words into the gathered-rows scratch — all on one semaphore —, waits 64 times, and then
  for each element multiplies the four 16-lane pieces of its two rows and adds them, storing 16 partial products.
  At the end the 8192 partial products are copied out to the subcore's slice of the result.
-/
import proofs.«218857_g62938450756068_cont_9to1c4b_813_41_alg».proof.Proof.KTileVDrain
import proofs.«218857_g62938450756068_cont_9to1c4b_813_41_alg».proof.Proof.KTileVScratch
import proofs.«218857_g62938450756068_cont_9to1c4b_813_41_alg».proof.Proof.KernelBodies

noncomputable section

namespace Cert.Proof.KTileV

open Cert.Kernel Cert.Kernel.Gen Cert.Proof.KernelBase Cert.Proof.KernelBodies
open Cert.Proof.KTileVDefs Cert.Proof.KTileVMem Cert.Proof.KTileVInv Cert.Proof.KTileVDrain Cert.Proof.KTileVScratch

open Idealize.ShloMosaic
open Idealize.ShloMosaic.ValueIdx
open Idealize.ShloMosaic.SparseCore (S V T)
open Idealize.ShloMosaic.SparseCore.Cfg (HIx Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

/-! ## The arrays as the subcore's memrefs address them -/

omit [FloatOps F] in
theorem pts_center (d : Dev nD) (L : grid1.Coords) (f : Buf (Elt F) (centerLoc d)) :
    ((centerK L).view.loc (thr d L) ↦[(centerK L).view.set]{fullShare} f : sProp 𝕄)
      = (centerLoc d ↦[centerSlice (wL L)]{fullShare} f) := by
  rw [set_centerK_rect, centerKRect_set]; rfl

omit [FloatOps F] in
theorem pts_ppos (d : Dev nD) (L : grid1.Coords) (f : Buf (Elt F) (pposLoc d)) :
    ((pposK L).view.loc (thr d L) ↦[(pposK L).view.set]{fullShare} f : sProp 𝕄)
      = (pposLoc d ↦[pposSlice (wL L)]{fullShare} f) := by
  rw [set_pposK_rect, pposKRect_set]; rfl

omit [FloatOps F] in
theorem pts_urows (d : Dev nD) (L : grid1.Coords) (f : Buf (Elt F) (urowsLoc d)) :
    (urowsLoc d ↦[urowsSlice (wL L)]{fullShare} f : sProp 𝕄)
      = bigSep Finset.univ fun j : Fin 8 => ((urowsK L j).view.loc (thr d L) ↦[(urowsK L j).view.set]{fullShare} f : sProp 𝕄) := by
  rw [← urowsKRect_cover, pointsTo_biUnion Finset.univ _ (urowsKRect_disjoint L)]
  refine bigSep_congr fun j _ => ?_
  rw [set_urowsK_rect]; rfl

omit [FloatOps F] in
theorem pts_ev (d : Dev nD) (L : grid1.Coords) (q : PosShare TreeShare) (f : Buf (Elt F) (evLoc d)) :
    ((evW).view.loc (thr d L) ↦[(evW).view.set]{q} f : sProp 𝕄) = (evLoc d ↦{q} f) := by
  simp only [Memref.view_whole, View.set_whole]

omit [FloatOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
theorem pts_s0 (d : Dev nD) (L : grid1.Coords) (f : Buf (Elt F) ((thr d L).loc cc1_scratch0)) :
    ((s0).view.loc (thr d L) ↦{fullShare} f : sProp 𝕄) = ((thr d L).loc cc1_scratch0 ↦{fullShare} f) := by
  simp only [Memref.view_whole, View.set_whole]
omit [FloatOps F] in
theorem pts_s1 (d : Dev nD) (L : grid1.Coords) (f : Buf (Elt F) ((thr d L).loc cc1_scratch1)) :
    ((s1).view.loc (thr d L) ↦{fullShare} f : sProp 𝕄) = ((thr d L).loc cc1_scratch1 ↦{fullShare} f) := by
  simp only [Memref.view_whole, View.set_whole]
omit [FloatOps F] in
theorem pts_s2 (d : Dev nD) (L : grid1.Coords) (f : Buf (Elt F) ((thr d L).loc cc1_scratch2)) :
    ((s2).view.loc (thr d L) ↦{fullShare} f : sProp 𝕄) = ((thr d L).loc cc1_scratch2 ↦{fullShare} f) := by
  simp only [Memref.view_whole, View.set_whole]
omit [FloatOps F] in
theorem pts_s3 (d : Dev nD) (L : grid1.Coords) (f : Buf (Elt F) ((thr d L).loc cc1_scratch3)) :
    ((s3).view.loc (thr d L) ↦{fullShare} f : sProp 𝕄) = ((thr d L).loc cc1_scratch3 ↦{fullShare} f) := by
  simp only [Memref.view_whole, View.set_whole]

/-- The subcore's centre words read through its slice are the centre words at 512w + j. -/
theorem center_inb (L : grid1.Coords) (j : S512.Idx) : 512 * (wL L).val + (j 0).val < 16384 := by
  have h1 : (j 0).val < 512 := (j 0).isLt
  have h2 := (wL L).isLt; omega

omit [FloatOps F] in
theorem read_centerK (d : Dev nD) (L : grid1.Coords) (f : Buf (Elt F) (centerLoc d)) (j : S512.Idx) :
    ((cW).slice (centerKRect L) (fun _ => rfl)).view.read (Elt F) f j
      = (f : S16384.Idx → BitVec 32) (ix1 ⟨512 * (wL L).val + (j 0).val, center_inb L j⟩) := by
  rw [View.read_apply]
  show (f : S16384.Idx → BitVec 32) ((centerKRect L).emb j) = _
  congr 1; funext a
  match a with
  | ⟨0, _⟩ =>
    apply Fin.ext
    show (k1_off1 L) 0 + 1 * (j 0).val = 512 * (wL L).val + (j 0).val
    rw [k1_off1_eq, wL_val]; simp only [Matrix.cons_val_zero]; omega

/-! ## Glue: the gathered-rows scratch as its 64 rows, the table's share as 64 read tokens -/

variable (d : Dev nD) (L : grid1.Coords)

omit [FloatOps F] in
/-- The gathered-rows scratch held whole is its 64 rows, each owned. -/
theorem rows_split [∀ e, Nonempty (Elt F e)] (g : Buf (Elt F) ((thr d L).loc cc1_scratch1)) :
    ((s1).view.loc (thr d L) ↦{fullShare} g : sProp 𝕄) ⊢ bigSep (Ring.rangeSet 64 0 64) (rowOwn d L) := by
  rw [pts_s1, Ring.rangeSet_univ]
  refine (Entails.of_eq ((congrArg (fun S => (l1 d L ↦[S]{fullShare} g : sProp 𝕄)) vRowRect_cover.symm).trans
    (pointsTo_biUnion (ℓ := l1 d L) (q := fullShare) (f := g) Finset.univ (fun t : Fin 64 => (vRowRect t).set) vRowRect_disjoint))).trans
    (BI.bigSep_mono fun t _ => ?_)
  show (l1 d L ↦[(vRowRect t).set]{fullShare} g : sProp 𝕄) ⊢ rowOwn d L t
  unfold rowOwn
  rw [set_vRow]
  iintro H; iexists g; iexact H

omit [FloatOps F] in
/-- The table's read share as 64 read tokens and what is left. -/
theorem toks_split (ev : Buf (Elt F) (lev d L)) (q : PosShare TreeShare) :
    ((evW).view.loc (thr d L) ↦[(evW).view.set]{q} ev : sProp 𝕄)
      ⊣⊢ iprop(((evW).view.loc (thr d L) ↦[(evW).view.set]{Transfers.shareDrop q 64} ev)
          ∗ bigSep (Ring.rangeSet 64 0 64) (tok d L ev q)) := by
  have e : bigSep (Ring.rangeSet 64 0 64) (tok d L ev q)
      = bigSep (Finset.range 64) (fun t => ((evW).view.loc (thr d L) ↦[(evW).view.set]{Transfers.shareTokN q t} ev : sProp 𝕄)) := by
    rw [Ring.bigSep_rangeSet_eq_range (NB := 64) (lo := 0) (hi := 64) (Φ := tok d L ev q) le_rfl
      (fun t => ((evW).view.loc (thr d L) ↦[(evW).view.set]{Transfers.shareTokN q t} ev : sProp 𝕄))
      (fun k hk => by simp only [Nat.zero_add])]
  rw [e]
  exact Transfers.pointsTo_toks_range q 64

/-! ## What the element loops maintain -/

theorem ppos_inb (L : grid1.Coords) (x : S8192.Idx) : 8192 * (wL L).val + (x 0).val < 262144 := by
  have h1 : (x 0).val < 8192 := (x 0).isLt
  have h2 := (wL L).isLt; omega

theorem urow_inb (L : grid1.Coords) (j : Fin 8) (y : S64x64.Idx) : 512 * (wL L).val + 64 * j.val + (y 0).val < 16384 := by
  have h1 : (y 0).val < 64 := (y 0).isLt
  have h2 := (wL L).isLt; have h3 := j.isLt; omega

variable (d : Dev nD) (L : grid1.Coords)

/-- The index scratch holds the subcore's centre words. -/
def CenOK (cF : Buf (Elt F) (l0 d L)) : Prop :=
  ∀ x : S512.Idx, (cF : S512.Idx → BitVec 32) x = (m (centerLoc d) : S16384.Idx → BitVec 32) (ix1 ⟨512 * (wL L).val + (x 0).val, center_inb L x⟩)

/-- The context-rows scratch holds chunk j's rows of the context rows. -/
def UjOK (U : Buf (Elt F) (urowsLoc d)) (j : Fin 8) (Uj : Buf (Elt F) (l2 d L)) : Prop :=
  ∀ y : S64x64.Idx, (Uj : S64x64.Idx → F .f32) y
    = (U : S16384x64.Idx → F .f32) (ix2 ⟨512 * (wL L).val + 64 * j.val + (y 0).val, urow_inb L j y⟩ ⟨(y 1).val, (y 1).isLt⟩)

/-- The partial-products scratch is right below position n. -/
def okBelow (U : Buf (Elt F) (urowsLoc d)) (n : ℕ) (pf : Buf (Elt F) (l3 d L)) : Prop :=
  ∀ x : S8192.Idx, (x 0).val < n →
    (pf : S8192.Idx → F .f32) x = (pposF m d U : S262144.Idx → F .f32) (ix1 ⟨8192 * (wL L).val + (x 0).val, ppos_inb L x⟩)

omit [FloatOps F] in
/-- Chunk j's context rows read through the subcore's slice are rows 512w + 64j + y of the context rows. -/
theorem read_urowsK (d : Dev nD) (L : grid1.Coords) (f : Buf (Elt F) (urowsLoc d)) (j : Fin 8) (y : S64x64.Idx) :
    ((uW).slice (urowsKRect L j) (fun _ => rfl)).view.read (Elt F) f y
      = (f : S16384x64.Idx → F .f32) (ix2 ⟨512 * (wL L).val + 64 * j.val + (y 0).val, urow_inb L j y⟩ ⟨(y 1).val, (y 1).isLt⟩) := by
  rw [View.read_apply]
  show (f : S16384x64.Idx → F .f32) ((urowsKRect L j).emb y) = _
  congr 1; funext a
  match a with
  | ⟨0, _⟩ =>
    apply Fin.ext
    show (k1_off2 L (BitVec.ofNat 32 (64 * j.val))) 0 + 1 * (y 0).val = 512 * (wL L).val + 64 * j.val + (y 0).val
    rw [k1_off2_eq L j, wL_val]; simp only [Matrix.cons_val_zero]; omega
  | ⟨1, _⟩ =>
    apply Fin.ext
    show (k1_off2 L (BitVec.ofNat 32 (64 * j.val))) 1 + 1 * (y 1).val = (y 1).val
    rw [k1_off2_eq L j]; simp only [Matrix.cons_val_one, Matrix.cons_val_zero]; omega

/-- `collect` with both results spelt as the subcore's memrefs address them. -/
theorem collect' [∀ e, Nonempty (Elt F e)] (d : Dev nD) (L : grid1.Coords) (cF : Buf (Elt F) (l0 d L))
    (hcF : ∀ x : S512.Idx, ((cF : S512.Idx → BitVec 32) x).toNat < 1000000) (ev : Buf (Elt F) (lev d L)) (q : PosShare TreeShare) (j : Fin 8) :
    iprop(bigSep Finset.univ (Dv d L cF hcF ev q j) ∗ bigSep (Ring.rangeSet 64 0 64) (tokRest d L cF hcF ev q j))
      ⊢ iprop(((s1).view.loc (thr d L) ↦{fullShare} gath d L cF ev j) ∗ bigSep (Ring.rangeSet 64 0 64) (tok d L ev q)) := by
  refine (collect d L cF hcF ev q j).trans ?_
  have hS : (evW).view.set = (Finset.univ : Finset S1000000x64.Idx) := (Memref.isWhole_whole _).set_eq_univ
  have e : bigSep (Ring.rangeSet 64 0 64) (tok d L ev q)
      = bigSep (Finset.range 64) (fun t => (lev d L ↦{Transfers.shareTokN q t} ev : sProp 𝕄)) := by
    rw [Ring.bigSep_rangeSet_eq_range (NB := 64) (lo := 0) (hi := 64) (Φ := tok d L ev q) le_rfl
      (fun t => (lev d L ↦{Transfers.shareTokN q t} ev : sProp 𝕄))
      (fun k hk => by unfold tok; rw [hS]; simp only [Nat.zero_add])]
  rw [e, pts_s1]

omit [FloatOps F] in
/-- The subcore's partial products read through its slice are the partial products at 8192w + x. -/
theorem read_pposK (d : Dev nD) (L : grid1.Coords) (f : Buf (Elt F) (pposLoc d)) (x : S8192.Idx) :
    ((pW).slice (pposKRect L) (fun _ => rfl)).view.read (Elt F) f x
      = (f : S262144.Idx → F .f32) (ix1 ⟨8192 * (wL L).val + (x 0).val, ppos_inb L x⟩) := by
  rw [View.read_apply]
  show (f : S262144.Idx → F .f32) ((pposKRect L).emb x) = _
  congr 1; funext a
  match a with
  | ⟨0, _⟩ =>
    apply Fin.ext
    show (k1_off315 L) 0 + 1 * (x 0).val = 8192 * (wL L).val + (x 0).val
    rw [k1_off315_eq, wL_val]; simp only [Matrix.cons_val_zero]; omega

set_option maxHeartbeats 40000000 in
/-- THE SECOND KERNEL'S TASK ON ONE SUBCORE, from its loops' steps. Given, for each of the eight chunks, one trip of
    the issue loop (sixteen row copies started on the gather semaphore) and one trip of the element loop (an
    element's sixteen partial products stored) against their invariants, the kernel at symbolic grid coordinates
    takes what the call hands the subcore — its slices of the centre words, the context rows and the partial
    products, a read share of the table, its scratch buffers and semaphores — to the same with the slice of the
    partial products at its value. The two first copies bring in the subcore's centre words (which name table
    rows, by the bound on the index words) and chunk 0's context rows; per chunk the gathered-rows scratch is
    split into its rows and the table's share into 64 read tokens, the batch of 64 copies is allocated, issued,
    drained by 64 waits, and collected back into the scratch whole at the chunk's table rows and the share whole;
    the element loop then fills the chunk's 1024 partial products; the last copy writes the 8192 of them out. -/
theorem tile_body_v_of_steps [∀ e, Nonempty (Elt F e)] (U : Buf (Elt F) (urowsLoc d))
    (EA : Fin 8 → Buf (Elt F) (l0 d L) → Buf (Elt F) (lev d L) → Buf (Elt F) (l2 d L) → ℕ → Unit → sProp 𝕄)
    (hEAin : ∀ (j : Fin 8) (cF : Buf (Elt F) (l0 d L)) (Uj : Buf (Elt F) (l2 d L)) (pf : Buf (Elt F) (l3 d L)),
      CenOK m d L cF → UjOK d L U j Uj → okBelow m d L U (1024 * j.val) pf →
      iprop(((s1).view.loc (thr d L) ↦{fullShare} gath d L cF (m (evLoc d)) j) ∗ ((s2).view.loc (thr d L) ↦{fullShare} Uj)
          ∗ ((s3).view.loc (thr d L) ↦{fullShare} pf)) ⊢ EA j cF (m (evLoc d)) Uj 0 ())
    (hEAout : ∀ (j : Fin 8) (cF : Buf (Elt F) (l0 d L)) (Uj : Buf (Elt F) (l2 d L)) (acc : Unit),
      EA j cF (m (evLoc d)) Uj 64 acc ⊢ iprop(∃ pf : Buf (Elt F) (l3 d L), ⌜okBelow m d L U (1024 * (j.val + 1)) pf⌝
          ∗ ((s1).view.loc (thr d L) ↦{fullShare} gath d L cF (m (evLoc d)) j) ∗ ((s2).view.loc (thr d L) ↦{fullShare} Uj)
          ∗ ((s3).view.loc (thr d L) ↦{fullShare} pf)))
    (hissue0 : ∀ (cF : Buf (Elt F) (l0 d L)) (hcF : ∀ x : S512.Idx, ((cF : S512.Idx → BitVec 32) x).toNat < 1000000)
      (ev : Buf (Elt F) (lev d L)) (q : PosShare TreeShare) (g : Fin k1_t1_loop.trips) (acc : Unit),
      issueAt d L cF hcF ev q 0 g.val acc ⊢ wp frame (wpE (defs₀ (F := F)) 𝒱₀ (thr d L) none) Set.univ
        (k1_t1_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 g acc) (issueAt d L cF hcF ev q 0 (g.val + 1)))
    (hissue1 : ∀ (cF : Buf (Elt F) (l0 d L)) (hcF : ∀ x : S512.Idx, ((cF : S512.Idx → BitVec 32) x).toNat < 1000000)
      (ev : Buf (Elt F) (lev d L)) (q : PosShare TreeShare) (v2 c0 : BitVec 32) (g : Fin k1_t4_loop.trips) (acc : Unit),
      issueAt d L cF hcF ev q 1 g.val acc ⊢ wp frame (wpE (defs₀ (F := F)) 𝒱₀ (thr d L) none) Set.univ
        (k1_t4_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 c0 g acc) (issueAt d L cF hcF ev q 1 (g.val + 1)))
    (hissue2 : ∀ (cF : Buf (Elt F) (l0 d L)) (hcF : ∀ x : S512.Idx, ((cF : S512.Idx → BitVec 32) x).toNat < 1000000)
      (ev : Buf (Elt F) (lev d L)) (q : PosShare TreeShare) (v2 c0 : BitVec 32) (g : Fin k1_t7_loop.trips) (acc : Unit),
      issueAt d L cF hcF ev q 2 g.val acc ⊢ wp frame (wpE (defs₀ (F := F)) 𝒱₀ (thr d L) none) Set.univ
        (k1_t7_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 c0 g acc) (issueAt d L cF hcF ev q 2 (g.val + 1)))
    (hissue3 : ∀ (cF : Buf (Elt F) (l0 d L)) (hcF : ∀ x : S512.Idx, ((cF : S512.Idx → BitVec 32) x).toNat < 1000000)
      (ev : Buf (Elt F) (lev d L)) (q : PosShare TreeShare) (v2 : BitVec 32) (g : Fin k1_t10_loop.trips) (acc : Unit),
      issueAt d L cF hcF ev q 3 g.val acc ⊢ wp frame (wpE (defs₀ (F := F)) 𝒱₀ (thr d L) none) Set.univ
        (k1_t10_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 g acc) (issueAt d L cF hcF ev q 3 (g.val + 1)))
    (hissue4 : ∀ (cF : Buf (Elt F) (l0 d L)) (hcF : ∀ x : S512.Idx, ((cF : S512.Idx → BitVec 32) x).toNat < 1000000)
      (ev : Buf (Elt F) (lev d L)) (q : PosShare TreeShare) (v2 : BitVec 32) (g : Fin k1_t13_loop.trips) (acc : Unit),
      issueAt d L cF hcF ev q 4 g.val acc ⊢ wp frame (wpE (defs₀ (F := F)) 𝒱₀ (thr d L) none) Set.univ
        (k1_t13_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 g acc) (issueAt d L cF hcF ev q 4 (g.val + 1)))
    (hissue5 : ∀ (cF : Buf (Elt F) (l0 d L)) (hcF : ∀ x : S512.Idx, ((cF : S512.Idx → BitVec 32) x).toNat < 1000000)
      (ev : Buf (Elt F) (lev d L)) (q : PosShare TreeShare) (v2 : BitVec 32) (g : Fin k1_t16_loop.trips) (acc : Unit),
      issueAt d L cF hcF ev q 5 g.val acc ⊢ wp frame (wpE (defs₀ (F := F)) 𝒱₀ (thr d L) none) Set.univ
        (k1_t16_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 g acc) (issueAt d L cF hcF ev q 5 (g.val + 1)))
    (hissue6 : ∀ (cF : Buf (Elt F) (l0 d L)) (hcF : ∀ x : S512.Idx, ((cF : S512.Idx → BitVec 32) x).toNat < 1000000)
      (ev : Buf (Elt F) (lev d L)) (q : PosShare TreeShare) (v2 : BitVec 32) (g : Fin k1_t19_loop.trips) (acc : Unit),
      issueAt d L cF hcF ev q 6 g.val acc ⊢ wp frame (wpE (defs₀ (F := F)) 𝒱₀ (thr d L) none) Set.univ
        (k1_t19_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 g acc) (issueAt d L cF hcF ev q 6 (g.val + 1)))
    (hissue7 : ∀ (cF : Buf (Elt F) (l0 d L)) (hcF : ∀ x : S512.Idx, ((cF : S512.Idx → BitVec 32) x).toNat < 1000000)
      (ev : Buf (Elt F) (lev d L)) (q : PosShare TreeShare) (g : Fin k1_t22_loop.trips) (acc : Unit),
      issueAt d L cF hcF ev q 7 g.val acc ⊢ wp frame (wpE (defs₀ (F := F)) 𝒱₀ (thr d L) none) Set.univ
        (k1_t22_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 g acc) (issueAt d L cF hcF ev q 7 (g.val + 1)))
    (helem0 : ∀ (cF : Buf (Elt F) (l0 d L)) (Uj : Buf (Elt F) (l2 d L)), CenOK m d L cF → UjOK d L U 0 Uj →
      ∀ (e : Fin k1_t3_loop.trips) (acc : Unit),
      EA 0 cF (m (evLoc d)) Uj e.val acc ⊢ wp frame (wpE (defs₀ (F := F)) 𝒱₀ (thr d L) none) Set.univ
        (k1_t3_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 e acc) (EA 0 cF (m (evLoc d)) Uj (e.val + 1)))
    (helem1 : ∀ (cF : Buf (Elt F) (l0 d L)) (Uj : Buf (Elt F) (l2 d L)), CenOK m d L cF → UjOK d L U 1 Uj →
      ∀ (v2 c0 : BitVec 32) (e : Fin k1_t6_loop.trips) (acc : Unit),
      EA 1 cF (m (evLoc d)) Uj e.val acc ⊢ wp frame (wpE (defs₀ (F := F)) 𝒱₀ (thr d L) none) Set.univ
        (k1_t6_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 c0 e acc) (EA 1 cF (m (evLoc d)) Uj (e.val + 1)))
    (helem2 : ∀ (cF : Buf (Elt F) (l0 d L)) (Uj : Buf (Elt F) (l2 d L)), CenOK m d L cF → UjOK d L U 2 Uj →
      ∀ (v2 c0 : BitVec 32) (e : Fin k1_t9_loop.trips) (acc : Unit),
      EA 2 cF (m (evLoc d)) Uj e.val acc ⊢ wp frame (wpE (defs₀ (F := F)) 𝒱₀ (thr d L) none) Set.univ
        (k1_t9_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 c0 e acc) (EA 2 cF (m (evLoc d)) Uj (e.val + 1)))
    (helem3 : ∀ (cF : Buf (Elt F) (l0 d L)) (Uj : Buf (Elt F) (l2 d L)), CenOK m d L cF → UjOK d L U 3 Uj →
      ∀ (v2 : BitVec 32) (e : Fin k1_t12_loop.trips) (acc : Unit),
      EA 3 cF (m (evLoc d)) Uj e.val acc ⊢ wp frame (wpE (defs₀ (F := F)) 𝒱₀ (thr d L) none) Set.univ
        (k1_t12_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 e acc) (EA 3 cF (m (evLoc d)) Uj (e.val + 1)))
    (helem4 : ∀ (cF : Buf (Elt F) (l0 d L)) (Uj : Buf (Elt F) (l2 d L)), CenOK m d L cF → UjOK d L U 4 Uj →
      ∀ (v2 : BitVec 32) (e : Fin k1_t15_loop.trips) (acc : Unit),
      EA 4 cF (m (evLoc d)) Uj e.val acc ⊢ wp frame (wpE (defs₀ (F := F)) 𝒱₀ (thr d L) none) Set.univ
        (k1_t15_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 e acc) (EA 4 cF (m (evLoc d)) Uj (e.val + 1)))
    (helem5 : ∀ (cF : Buf (Elt F) (l0 d L)) (Uj : Buf (Elt F) (l2 d L)), CenOK m d L cF → UjOK d L U 5 Uj →
      ∀ (v2 : BitVec 32) (e : Fin k1_t18_loop.trips) (acc : Unit),
      EA 5 cF (m (evLoc d)) Uj e.val acc ⊢ wp frame (wpE (defs₀ (F := F)) 𝒱₀ (thr d L) none) Set.univ
        (k1_t18_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 v2 e acc) (EA 5 cF (m (evLoc d)) Uj (e.val + 1)))
    (helem6 : ∀ (cF : Buf (Elt F) (l0 d L)) (Uj : Buf (Elt F) (l2 d L)), CenOK m d L cF → UjOK d L U 6 Uj →
      ∀ (e : Fin k1_t21_loop.trips) (acc : Unit),
      EA 6 cF (m (evLoc d)) Uj e.val acc ⊢ wp frame (wpE (defs₀ (F := F)) 𝒱₀ (thr d L) none) Set.univ
        (k1_t21_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 e acc) (EA 6 cF (m (evLoc d)) Uj (e.val + 1)))
    (helem7 : ∀ (cF : Buf (Elt F) (l0 d L)) (Uj : Buf (Elt F) (l2 d L)), CenOK m d L cF → UjOK d L U 7 Uj →
      ∀ (e : Fin k1_t24_loop.trips) (acc : Unit),
      EA 7 cF (m (evLoc d)) Uj e.val acc ⊢ wp frame (wpE (defs₀ (F := F)) 𝒱₀ (thr d L) none) Set.univ
        (k1_t24_body L cW (Memref.isWhole_whole _) evW (Memref.isWhole_whole _) uW (Memref.isWhole_whole _) pW (Memref.isWhole_whole _) s0 (Memref.isWhole_whole _) s1 (Memref.isWhole_whole _) s2 (Memref.isWhole_whole _) s3 (Memref.isWhole_whole _) cc1_scratch4 cc1_scoped0 cc1_scoped1 cc1_scoped2 cc1_scoped3 cc1_scoped4 cc1_scoped5 cc1_scoped6 cc1_scoped7 cc1_scoped8 cc1_scoped9 e acc) (EA 7 cF (m (evLoc d)) Uj (e.val + 1)))
    (hF : (K (F := F)).Facts) (hpre : KTileVDefs.PreOKV m)
    (f0 : Buf (Elt F) (pposLoc d))
    (O : CellTallies nD τ sig (HIx 2)) (W : Waits sig (HIx 2)) (hO : ∀ g, O g none = 0) :
    iprop(levAts (K (F := F)).L (K (F := F)).lev ∗ emp ∗ KTileVDefs.goV m d L U f0
        ∗ scopedBufs (thr d L) ∗ scopedSems0 (thr d L) ∗ owes (thr d L) O W)
      ⊢ wp frame (wpE (defs₀ (F := F)) 𝒱₀ (thr d L) none) Set.univ (bodyV (F := F) L)
          fun _ => iprop(KTileVDefs.tdV m d L U ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V d (cV L) (jV L), ownBufs_V, ownSems0_V, bigSep_bufsV, bigSep_semsV]
  unfold KTileVDefs.goV KTileVDefs.tdV
  iintro ⟨#Hlv, -, ⟨Hcen, Hev, Hur, Hpp⟩, ⟨⟨⟨%g0, Hs0⟩, ⟨%g1, Hs1⟩, ⟨%g2, Hs2⟩, ⟨%g3, Hs3⟩⟩, Hbrest⟩, ⟨⟨Hc4, Hr0, Hr1, Hr2, Hr3, Hr4, Hr5, Hr6, Hr7, Hr8, Hr9⟩, Hsrest⟩, HO⟩
  ihave Hmw := ((K (F := F)).mayWaits_none (thr := thr d L) hO) $$ Hlv
  ihave Hcen' := (Entails.of_eq (pts_center d L _).symm) $$ Hcen
  ihave Hpp' := (Entails.of_eq (pts_ppos d L _).symm) $$ Hpp
  ihave Hev' := (Entails.of_eq (pts_ev d L _ _).symm) $$ Hev
  ihave Hur' := (Entails.of_eq ((pts_urows d L _).trans (bigSep_fin8 _))) $$ Hur
  icases Hur' with ⟨Hu0, Hu1, Hu2, Hu3, Hu4, Hu5, Hu6, Hu7⟩
  ihave Hs0' := (Entails.of_eq (pts_s0 d L g0).symm) $$ Hs0
  ihave Hs1' := (Entails.of_eq (pts_s1 d L g1).symm) $$ Hs1
  ihave Hs2' := (Entails.of_eq (pts_s2 d L g2).symm) $$ Hs2
  ihave Hs3' := (Entails.of_eq (pts_s3 d L g3).symm) $$ Hs3
  ihave Hc4' := (show (semVal (V d (cV L) (jV L), SemLoc.dma cc1_scratch4.sem) 0 : sProp 𝕄) ⊢ semVal (thr d L, SemLoc.dma cc1_scratch4.sem) 0 from .rfl) $$ Hc4
  ihave Hr0' := (show (semVal (V d (cV L) (jV L), SemLoc.dma cc1_scoped0.sem) 0 : sProp 𝕄) ⊢ semVal (thr d L, SemLoc.dma cc1_scoped0.sem) 0 from .rfl) $$ Hr0
  ihave Hr1' := (show (semVal (V d (cV L) (jV L), SemLoc.dma cc1_scoped1.sem) 0 : sProp 𝕄) ⊢ semVal (thr d L, SemLoc.dma cc1_scoped1.sem) 0 from .rfl) $$ Hr1
  ihave Hr2' := (show (semVal (V d (cV L) (jV L), SemLoc.dma cc1_scoped2.sem) 0 : sProp 𝕄) ⊢ semVal (thr d L, SemLoc.dma cc1_scoped2.sem) 0 from .rfl) $$ Hr2
  ihave Hr3' := (show (semVal (V d (cV L) (jV L), SemLoc.dma cc1_scoped3.sem) 0 : sProp 𝕄) ⊢ semVal (thr d L, SemLoc.dma cc1_scoped3.sem) 0 from .rfl) $$ Hr3
  ihave Hr4' := (show (semVal (V d (cV L) (jV L), SemLoc.dma cc1_scoped4.sem) 0 : sProp 𝕄) ⊢ semVal (thr d L, SemLoc.dma cc1_scoped4.sem) 0 from .rfl) $$ Hr4
  ihave Hr5' := (show (semVal (V d (cV L) (jV L), SemLoc.dma cc1_scoped5.sem) 0 : sProp 𝕄) ⊢ semVal (thr d L, SemLoc.dma cc1_scoped5.sem) 0 from .rfl) $$ Hr5
  ihave Hr6' := (show (semVal (V d (cV L) (jV L), SemLoc.dma cc1_scoped6.sem) 0 : sProp 𝕄) ⊢ semVal (thr d L, SemLoc.dma cc1_scoped6.sem) 0 from .rfl) $$ Hr6
  ihave Hr7' := (show (semVal (V d (cV L) (jV L), SemLoc.dma cc1_scoped7.sem) 0 : sProp 𝕄) ⊢ semVal (thr d L, SemLoc.dma cc1_scoped7.sem) 0 from .rfl) $$ Hr7
  ihave Hr8' := (show (semVal (V d (cV L) (jV L), SemLoc.dma cc1_scoped8.sem) 0 : sProp 𝕄) ⊢ semVal (thr d L, SemLoc.dma cc1_scoped8.sem) 0 from .rfl) $$ Hr8
  ihave Hr9' := (show (semVal (V d (cV L) (jV L), SemLoc.dma cc1_scoped9.sem) 0 : sProp 𝕄) ⊢ semVal (thr d L, SemLoc.dma cc1_scoped9.sem) 0 from .rfl) $$ Hr9
  sl_unfold [bodyV, cc1__sc_v_body]
  sl_exec
  rw [View.write_whole_univ, View.write_whole_univ]
  -- the centre words the first copy brought in name table rows
  have hcen : CenOK m d L (tile_body_v_of_steps.sl.dma0 m d L) := fun x => by
    unfold tile_body_v_of_steps.sl.dma0
    exact read_centerK d L (m (centerLoc d)) x
  have hcF : ∀ x : S512.Idx, ((tile_body_v_of_steps.sl.dma0 m d L : S512.Idx → BitVec 32) x).toNat < 1000000 := by
    intro x; rw [hcen x]; exact hpre d _
  have hW0 : ∀ p ∈ W, p ∈ W ∨ p.2 = none := fun p hp => .inl hp
  have hU0 : UjOK d L U 0 (tile_body_v_of_steps.sl.dma0_1 d L U) := fun y => by
    unfold tile_body_v_of_steps.sl.dma0_1
    exact read_urowsK d L U 0 y
  have hP0 : okBelow m d L U (1024 * ((0 : Fin 8) : ℕ)) g3 := fun x hx => by
    have : ((0 : Fin 8) : ℕ) = 0 := rfl
    omega
  -- chunk 0: the gather's 64 copies issued on the one semaphore
  ihave Hrows := (rows_split d L _) $$ Hs1'
  ihave Htk := (toks_split d L (m (evLoc d)) (Transfers.shareTok fullShare 32 (wL L))).1 $$ Hev'
  icases Htk with ⟨Hevrest, Htoks⟩
  imod (Transfers.batch_alloc' (Lvl := ℕ) (countersEmb (U := UU)) (thr d L) (none : HIx 2) NR
    (Dv d L (tile_body_v_of_steps.sl.dma0 m d L) hcF (m (evLoc d)) (Transfers.shareTok fullShare 32 (wL L)) 0) (sm := .dma cc1_scratch4.sem) (E := Set.univ)) $$ Hc4' with HB
  sl_for (issueAt d L (tile_body_v_of_steps.sl.dma0 m d L) hcF (m (evLoc d)) (Transfers.shareTok fullShare 32 (wL L)) 0) $$ [HB Hs0' Hrows Htoks]
  · intro g acc; exact hissue0 _ hcF _ _ g acc
  · unfold issueAt
    isplitl [HB]; · iexact HB
    isplitl [Hs0']; · iexact Hs0'
    isplitl [Hrows]; · iexact Hrows
    isplitl [Htoks]; · iexact Htoks
    rw [Ring.bigSep_rangeSet_empty (le_refl _)]; iempintro
  iintro %acc HI
  ihave HI' := (show issueAt d L (tile_body_v_of_steps.sl.dma0 m d L) hcF (m (evLoc d)) (Transfers.shareTok fullShare 32 (wL L)) 0 (Scf.trips k1_t1_loop.lb k1_t1_loop.ub k1_t1_loop.st) acc
      ⊢ iprop(batch d L (tile_body_v_of_steps.sl.dma0 m d L) hcF (m (evLoc d)) (Transfers.shareTok fullShare 32 (wL L)) 0 64 0 ∗ ((s0).view.loc (thr d L) ↦{fullShare} (tile_body_v_of_steps.sl.dma0 m d L))
          ∗ bigSep (Ring.rangeSet 64 0 64) (tokRest d L (tile_body_v_of_steps.sl.dma0 m d L) hcF (m (evLoc d)) (Transfers.shareTok fullShare 32 (wL L)) 0)) from by
    unfold issueAt
    rw [show Scf.trips k1_t1_loop.lb k1_t1_loop.ub k1_t1_loop.st = 4 from rfl, Ring.bigSep_rangeSet_empty (le_refl _), Ring.bigSep_rangeSet_empty (le_refl _)]
    iintro ⟨HB, Hs, -, -, Hr⟩
    isplitl [HB]; · iexact HB
    isplitl [Hs]; · iexact Hs
    iexact Hr) $$ HI
  icases HI' with ⟨HB, Hs0', Htr⟩
  -- chunk 0: the 64 waits
  sl_exec
  sl_for (drainAt d L (tile_body_v_of_steps.sl.dma0 m d L) hcF (m (evLoc d)) (Transfers.shareTok fullShare 32 (wL L)) 0 O W) $$ [HB HO]
  · intro k acc; exact drain_step0 d L (tile_body_v_of_steps.sl.dma0 m d L) hcF (m (evLoc d)) (Transfers.shareTok fullShare 32 (wL L)) O W k acc
  · unfold drainAt
    isplitr; · ipureintro; omega
    isplitr; · iexact Hmw
    isplitl [HO]
    · iexists _; isplitr
      rotate_left
      · iexact HO
      · ipureintro; intro p hp
        rcases Finset.mem_insert.mp hp with hp | hp
        · exact .inr (hp ▸ rfl)
        rcases Finset.mem_insert.mp hp with hp | hp
        · exact .inr (hp ▸ rfl)
        exact hW0 p hp
    rw [if_pos (by decide), Nat.zero_mul]; iexact HB
  iintro %acc HD
  ihave HD' := (show drainAt d L (tile_body_v_of_steps.sl.dma0 m d L) hcF (m (evLoc d)) (Transfers.shareTok fullShare 32 (wL L)) 0 O W (Scf.trips k1_t2_loop.lb k1_t2_loop.ub k1_t2_loop.st) acc
      ⊢ iprop((∃ W', ⌜∀ p ∈ W', p ∈ W ∨ p.2 = none⌝ ∗ owes (thr d L) O W') ∗ semVal (thr d L, SemLoc.dma cc1_scratch4.sem) 0
          ∗ bigSep Finset.univ (Dv d L (tile_body_v_of_steps.sl.dma0 m d L) hcF (m (evLoc d)) (Transfers.shareTok fullShare 32 (wL L)) 0)) from by
    unfold drainAt
    rw [show Scf.trips k1_t2_loop.lb k1_t2_loop.ub k1_t2_loop.st = 64 from rfl, if_neg (Nat.lt_irrefl _)]
    iintro ⟨-, -, HO, Hc, Hall⟩
    isplitl [HO]; · iexact HO
    isplitl [Hc] <;> iassumption) $$ HD
  icases HD' with ⟨⟨%Wd0, %hWd0, HO⟩, Hc4', Hall⟩
  ihave Hcol := (collect' d L (tile_body_v_of_steps.sl.dma0 m d L) hcF (m (evLoc d)) (Transfers.shareTok fullShare 32 (wL L)) 0) $$ [Hall Htr]
  · isplitl [Hall] <;> iassumption
  icases Hcol with ⟨Hs1', Htoks⟩
  ihave Hev' := (toks_split d L (m (evLoc d)) (Transfers.shareTok fullShare 32 (wL L))).2 $$ [Hevrest Htoks]
  · isplitl [Hevrest] <;> iassumption
  -- chunk 0: the 64 elements' partial products
  sl_exec
  sl_for (EA 0 (tile_body_v_of_steps.sl.dma0 m d L) (m (evLoc d)) (tile_body_v_of_steps.sl.dma0_1 d L U)) $$ [Hs1' Hs2' Hs3']
  · intro e acc; exact helem0 _ _ hcen hU0 e acc
  · iapply (hEAin 0 (tile_body_v_of_steps.sl.dma0 m d L) (tile_body_v_of_steps.sl.dma0_1 d L U) g3 hcen hU0 hP0)
    isplitl [Hs1']; · iexact Hs1'
    isplitl [Hs2'] <;> iassumption
  iintro %acc HE
  ihave HE' := (show EA 0 (tile_body_v_of_steps.sl.dma0 m d L) (m (evLoc d)) (tile_body_v_of_steps.sl.dma0_1 d L U) (Scf.trips k1_t3_loop.lb k1_t3_loop.ub k1_t3_loop.st) acc ⊢ _ from hEAout 0 (tile_body_v_of_steps.sl.dma0 m d L) (tile_body_v_of_steps.sl.dma0_1 d L U) acc) $$ HE
  icases HE' with ⟨%pf0, %hpf0, Hs1', Hs2', Hs3'⟩
  sl_exec
  rw [View.write_whole_univ]
  have hU1 : UjOK d L U 1 (tile_body_v_of_steps.sl.dma0_2 d L U) := fun y => by
    unfold tile_body_v_of_steps.sl.dma0_2
    exact read_urowsK d L U 1 y
  have hP1 : okBelow m d L U (1024 * ((1 : Fin 8) : ℕ)) pf0 := hpf0
  -- chunk 1: the gather's 64 copies issued on the one semaphore
  ihave Hrows := (rows_split d L _) $$ Hs1'
  ihave Htk := (toks_split d L (m (evLoc d)) (Transfers.shareTok fullShare 32 (wL L))).1 $$ Hev'
  icases Htk with ⟨Hevrest, Htoks⟩
  imod (Transfers.batch_alloc' (Lvl := ℕ) (countersEmb (U := UU)) (thr d L) (none : HIx 2) NR
    (Dv d L (tile_body_v_of_steps.sl.dma0 m d L) hcF (m (evLoc d)) (Transfers.shareTok fullShare 32 (wL L)) 1) (sm := .dma cc1_scratch4.sem) (E := Set.univ)) $$ Hc4' with HB
  sl_for (issueAt d L (tile_body_v_of_steps.sl.dma0 m d L) hcF (m (evLoc d)) (Transfers.shareTok fullShare 32 (wL L)) 1) $$ [HB Hs0' Hrows Htoks]
  · intro g acc; exact hissue1 _ hcF _ _ _ _ g acc
  · unfold issueAt
    isplitl [HB]; · iexact HB
    isplitl [Hs0']; · iexact Hs0'
    isplitl [Hrows]; · iexact Hrows
    isplitl [Htoks]; · iexact Htoks
    rw [Ring.bigSep_rangeSet_empty (le_refl _)]; iempintro
  iintro %acc HI
  ihave HI' := (show issueAt d L (tile_body_v_of_steps.sl.dma0 m d L) hcF (m (evLoc d)) (Transfers.shareTok fullShare 32 (wL L)) 1 (Scf.trips k1_t4_loop.lb k1_t4_loop.ub k1_t4_loop.st) acc
      ⊢ iprop(batch d L (tile_body_v_of_steps.sl.dma0 m d L) hcF (m (evLoc d)) (Transfers.shareTok fullShare 32 (wL L)) 1 64 0 ∗ ((s0).view.loc (thr d L) ↦{fullShare} (tile_body_v_of_steps.sl.dma0 m d L))
          ∗ bigSep (Ring.rangeSet 64 0 64) (tokRest d L (tile_body_v_of_steps.sl.dma0 m d L) hcF (m (evLoc d)) (Transfers.shareTok fullShare 32 (wL L)) 1)) from by
    unfold issueAt
    rw [show Scf.trips k1_t4_loop.lb k1_t4_loop.ub k1_t4_loop.st = 4 from rfl, Ring.bigSep_rangeSet_empty (le_refl _), Ring.bigSep_rangeSet_empty (le_refl _)]
    iintro ⟨HB, Hs, -, -, Hr⟩
    isplitl [HB]; · iexact HB
    isplitl [Hs]; · iexact Hs
    iexact Hr) $$ HI
  icases HI' with ⟨HB, Hs0', Htr⟩
  -- chunk 1: the 64 waits
  sl_exec
  sl_for (drainAt d L (tile_body_v_of_steps.sl.dma0 m d L) hcF (m (evLoc d)) (Transfers.shareTok fullShare 32 (wL L)) 1 O W) $$ [HB HO]
  · intro k acc; exact drain_step1 d L (tile_body_v_of_steps.sl.dma0 m d L) hcF (m (evLoc d)) (Transfers.shareTok fullShare 32 (wL L)) O W _ _ k acc
  · unfold drainAt
    isplitr; · ipureintro; omega
    isplitr; · iexact Hmw
    isplitl [HO]
    · iexists _; isplitr
      rotate_left
      · iexact HO
      · ipureintro; intro p hp
        rcases Finset.mem_insert.mp hp with hp | hp
        · exact .inr (hp ▸ rfl)
        exact hWd0 p hp
    rw [if_pos (by decide), Nat.zero_mul]; iexact HB
  iintro %acc HD
  ihave HD' := (show drainAt d L (tile_body_v_of_steps.sl.dma0 m d L) hcF (m (evLoc d)) (Transfers.shareTok fullShare 32 (wL L)) 1 O W (Scf.trips k1_t5_loop.lb k1_t5_loop.ub k1_t5_loop.st) acc
      ⊢ iprop((∃ W', ⌜∀ p ∈ W', p ∈ W ∨ p.2 = none⌝ ∗ owes (thr d L) O W') ∗ semVal (thr d L, SemLoc.dma cc1_scratch4.sem) 0
          ∗ bigSep Finset.univ (Dv d L (tile_body_v_of_steps.sl.dma0 m d L) hcF (m (evLoc d)) (Transfers.shareTok fullShare 32 (wL L)) 1)) from by
    unfold drainAt
    rw [show Scf.trips k1_t5_loop.lb k1_t5_loop.ub k1_t5_loop.st = 64 from rfl, if_neg (Nat.lt_irrefl _)]
    iintro ⟨-, -, HO, Hc, Hall⟩
    isplitl [HO]; · iexact HO
    isplitl [Hc] <;> iassumption) $$ HD
  icases HD' with ⟨⟨%Wd1, %hWd1, HO⟩, Hc4', Hall⟩
  ihave Hcol := (collect' d L (tile_body_v_of_steps.sl.dma0 m d L) hcF (m (evLoc d)) (Transfers.shareTok fullShare 32 (wL L)) 1) $$ [Hall Htr]
  · isplitl [Hall] <;> iassumption
  icases Hcol with ⟨Hs1', Htoks⟩
  ihave Hev' := (toks_split d L (m (evLoc d)) (Transfers.shareTok fullShare 32 (wL L))).2 $$ [Hevrest Htoks]
  · isplitl [Hevrest] <;> iassumption
  -- chunk 1: the 64 elements' partial products
  sl_exec
  sl_for (EA 1 (tile_body_v_of_steps.sl.dma0 m d L) (m (evLoc d)) (tile_body_v_of_steps.sl.dma0_2 d L U)) $$ [Hs1' Hs2' Hs3']
  · intro e acc; exact helem1 _ _ hcen hU1 _ _ e acc
  · iapply (hEAin 1 (tile_body_v_of_steps.sl.dma0 m d L) (tile_body_v_of_steps.sl.dma0_2 d L U) pf0 hcen hU1 hP1)
    isplitl [Hs1']; · iexact Hs1'
    isplitl [Hs2'] <;> iassumption
  iintro %acc HE
  ihave HE' := (show EA 1 (tile_body_v_of_steps.sl.dma0 m d L) (m (evLoc d)) (tile_body_v_of_steps.sl.dma0_2 d L U) (Scf.trips k1_t6_loop.lb k1_t6_loop.ub k1_t6_loop.st) acc ⊢ _ from hEAout 1 (tile_body_v_of_steps.sl.dma0 m d L) (tile_body_v_of_steps.sl.dma0_2 d L U) acc) $$ HE
  icases HE' with ⟨%pf1, %hpf1, Hs1', Hs2', Hs3'⟩
  sl_exec
  rw [View.write_whole_univ]
  have hU2 : UjOK d L U 2 (tile_body_v_of_steps.sl.dma0_3 d L U) := fun y => by
    unfold tile_body_v_of_steps.sl.dma0_3
    exact read_urowsK d L U 2 y
  have hP2 : okBelow m d L U (1024 * ((2 : Fin 8) : ℕ)) pf1 := hpf1
  -- chunk 2: the gather's 64 copies issued on the one semaphore
  ihave Hrows := (rows_split d L _) $$ Hs1'
  ihave Htk := (toks_split d L (m (evLoc d)) (Transfers.shareTok fullShare 32 (wL L))).1 $$ Hev'
  icases Htk with ⟨Hevrest, Htoks⟩
  imod (Transfers.batch_alloc' (Lvl := ℕ) (countersEmb (U := UU)) (thr d L) (none : HIx 2) NR
    (Dv d L (tile_body_v_of_steps.sl.dma0 m d L) hcF (m (evLoc d)) (Transfers.shareTok fullShare 32 (wL L)) 2) (sm := .dma cc1_scratch4.sem) (E := Set.univ)) $$ Hc4' with HB
  sl_for (issueAt d L (tile_body_v_of_steps.sl.dma0 m d L) hcF (m (evLoc d)) (Transfers.shareTok fullShare 32 (wL L)) 2) $$ [HB Hs0' Hrows Htoks]
  · intro g acc; exact hissue2 _ hcF _ _ _ _ g acc
  · unfold issueAt
    isplitl [HB]; · iexact HB
    isplitl [Hs0']; · iexact Hs0'
    isplitl [Hrows]; · iexact Hrows
    isplitl [Htoks]; · iexact Htoks
    rw [Ring.bigSep_rangeSet_empty (le_refl _)]; iempintro
  iintro %acc HI
  ihave HI' := (show issueAt d L (tile_body_v_of_steps.sl.dma0 m d L) hcF (m (evLoc d)) (Transfers.shareTok fullShare 32 (wL L)) 2 (Scf.trips k1_t7_loop.lb k1_t7_loop.ub k1_t7_loop.st) acc
      ⊢ iprop(batch d L (tile_body_v_of_steps.sl.dma0 m d L) hcF (m (evLoc d)) (Transfers.shareTok fullShare 32 (wL L)) 2 64 0 ∗ ((s0).view.loc (thr d L) ↦{fullShare} (tile_body_v_of_steps.sl.dma0 m d L))
          ∗ bigSep (Ring.rangeSet 64 0 64) (tokRest d L (tile_body_v_of_steps.sl.dma0 m d L) hcF (m (evLoc d)) (Transfers.shareTok fullShare 32 (wL L)) 2)) from by
    unfold issueAt
    rw [show Scf.trips k1_t7_loop.lb k1_t7_loop.ub k1_t7_loop.st = 4 from rfl, Ring.bigSep_rangeSet_empty (le_refl _), Ring.bigSep_rangeSet_empty (le_refl _)]
    iintro ⟨HB, Hs, -, -, Hr⟩
    isplitl [HB]; · iexact HB
    isplitl [Hs]; · iexact Hs
    iexact Hr) $$ HI
  icases HI' with ⟨HB, Hs0', Htr⟩
  -- chunk 2: the 64 waits
  sl_exec
  sl_for (drainAt d L (tile_body_v_of_steps.sl.dma0 m d L) hcF (m (evLoc d)) (Transfers.shareTok fullShare 32 (wL L)) 2 O W) $$ [HB HO]
  · intro k acc; exact drain_step2 d L (tile_body_v_of_steps.sl.dma0 m d L) hcF (m (evLoc d)) (Transfers.shareTok fullShare 32 (wL L)) O W _ _ k acc
  · unfold drainAt
    isplitr; · ipureintro; omega
    isplitr; · iexact Hmw
    isplitl [HO]
    · iexists _; isplitr
      rotate_left
      · iexact HO
      · ipureintro; intro p hp
        rcases Finset.mem_insert.mp hp with hp | hp
        · exact .inr (hp ▸ rfl)
        exact hWd1 p hp
    rw [if_pos (by decide), Nat.zero_mul]; iexact HB
  iintro %acc HD
  ihave HD' := (show drainAt d L (tile_body_v_of_steps.sl.dma0 m d L) hcF (m (evLoc d)) (Transfers.shareTok fullShare 32 (wL L)) 2 O W (Scf.trips k1_t8_loop.lb k1_t8_loop.ub k1_t8_loop.st) acc
      ⊢ iprop((∃ W', ⌜∀ p ∈ W', p ∈ W ∨ p.2 = none⌝ ∗ owes (thr d L) O W') ∗ semVal (thr d L, SemLoc.dma cc1_scratch4.sem) 0
          ∗ bigSep Finset.univ (Dv d L (tile_body_v_of_steps.sl.dma0 m d L) hcF (m (evLoc d)) (Transfers.shareTok fullShare 32 (wL L)) 2)) from by
    unfold drainAt
    rw [show Scf.trips k1_t8_loop.lb k1_t8_loop.ub k1_t8_loop.st = 64 from rfl, if_neg (Nat.lt_irrefl _)]
    iintro ⟨-, -, HO, Hc, Hall⟩
    isplitl [HO]; · iexact HO
    isplitl [Hc] <;> iassumption) $$ HD
  icases HD' with ⟨⟨%Wd2, %hWd2, HO⟩, Hc4', Hall⟩
  ihave Hcol := (collect' d L (tile_body_v_of_steps.sl.dma0 m d L) hcF (m (evLoc d)) (Transfers.shareTok fullShare 32 (wL L)) 2) $$ [Hall Htr]
  · isplitl [Hall] <;> iassumption
  icases Hcol with ⟨Hs1', Htoks⟩
  ihave Hev' := (toks_split d L (m (evLoc d)) (Transfers.shareTok fullShare 32 (wL L))).2 $$ [Hevrest Htoks]
  · isplitl [Hevrest] <;> iassumption
  -- chunk 2: the 64 elements' partial products
  sl_exec
  sl_for (EA 2 (tile_body_v_of_steps.sl.dma0 m d L) (m (evLoc d)) (tile_body_v_of_steps.sl.dma0_3 d L U)) $$ [Hs1' Hs2' Hs3']
  · intro e acc; exact helem2 _ _ hcen hU2 _ _ e acc
  · iapply (hEAin 2 (tile_body_v_of_steps.sl.dma0 m d L) (tile_body_v_of_steps.sl.dma0_3 d L U) pf1 hcen hU2 hP2)
    isplitl [Hs1']; · iexact Hs1'
    isplitl [Hs2'] <;> iassumption
  iintro %acc HE
  ihave HE' := (show EA 2 (tile_body_v_of_steps.sl.dma0 m d L) (m (evLoc d)) (tile_body_v_of_steps.sl.dma0_3 d L U) (Scf.trips k1_t9_loop.lb k1_t9_loop.ub k1_t9_loop.st) acc ⊢ _ from hEAout 2 (tile_body_v_of_steps.sl.dma0 m d L) (tile_body_v_of_steps.sl.dma0_3 d L U) acc) $$ HE
  icases HE' with ⟨%pf2, %hpf2, Hs1', Hs2', Hs3'⟩
  sl_exec
  rw [View.write_whole_univ]
  have hU3 : UjOK d L U 3 (tile_body_v_of_steps.sl.dma0_4 d L U) := fun y => by
    unfold tile_body_v_of_steps.sl.dma0_4
    exact read_urowsK d L U 3 y
  have hP3 : okBelow m d L U (1024 * ((3 : Fin 8) : ℕ)) pf2 := hpf2
  -- chunk 3: the gather's 64 copies issued on the one semaphore
  ihave Hrows := (rows_split d L _) $$ Hs1'
  ihave Htk := (toks_split d L (m (evLoc d)) (Transfers.shareTok fullShare 32 (wL L))).1 $$ Hev'
  icases Htk with ⟨Hevrest, Htoks⟩
  imod (Transfers.batch_alloc' (Lvl := ℕ) (countersEmb (U := UU)) (thr d L) (none : HIx 2) NR
    (Dv d L (tile_body_v_of_steps.sl.dma0 m d L) hcF (m (evLoc d)) (Transfers.shareTok fullShare 32 (wL L)) 3) (sm := .dma cc1_scratch4.sem) (E := Set.univ)) $$ Hc4' with HB
  sl_for (issueAt d L (tile_body_v_of_steps.sl.dma0 m d L) hcF (m (evLoc d)) (Transfers.shareTok fullShare 32 (wL L)) 3) $$ [HB Hs0' Hrows Htoks]
  · intro g acc; exact hissue3 _ hcF _ _ _ g acc
  · unfold issueAt
    isplitl [HB]; · iexact HB
    isplitl [Hs0']; · iexact Hs0'
    isplitl [Hrows]; · iexact Hrows
    isplitl [Htoks]; · iexact Htoks
    rw [Ring.bigSep_rangeSet_empty (le_refl _)]; iempintro
  iintro %acc HI
  ihave HI' := (show issueAt d L (tile_body_v_of_steps.sl.dma0 m d L) hcF (m (evLoc d)) (Transfers.shareTok fullShare 32 (wL L)) 3 (Scf.trips k1_t10_loop.lb k1_t10_loop.ub k1_t10_loop.st) acc
      ⊢ iprop(batch d L (tile_body_v_of_steps.sl.dma0 m d L) hcF (m (evLoc d)) (Transfers.shareTok fullShare 32 (wL L)) 3 64 0 ∗ ((s0).view.loc (thr d L) ↦{fullShare} (tile_body_v_of_steps.sl.dma0 m d L))
          ∗ bigSep (Ring.rangeSet 64 0 64) (tokRest d L (tile_body_v_of_steps.sl.dma0 m d L) hcF (m (evLoc d)) (Transfers.shareTok fullShare 32 (wL L)) 3)) from by
    unfold issueAt
    rw [show Scf.trips k1_t10_loop.lb k1_t10_loop.ub k1_t10_loop.st = 4 from rfl, Ring.bigSep_rangeSet_empty (le_refl _), Ring.bigSep_rangeSet_empty (le_refl _)]
    iintro ⟨HB, Hs, -, -, Hr⟩
    isplitl [HB]; · iexact HB
    isplitl [Hs]; · iexact Hs
    iexact Hr) $$ HI
  icases HI' with ⟨HB, Hs0', Htr⟩
  -- chunk 3: the 64 waits
  sl_exec
  sl_for (drainAt d L (tile_body_v_of_steps.sl.dma0 m d L) hcF (m (evLoc d)) (Transfers.shareTok fullShare 32 (wL L)) 3 O W) $$ [HB HO]
  · intro k acc; exact drain_step3 d L (tile_body_v_of_steps.sl.dma0 m d L) hcF (m (evLoc d)) (Transfers.shareTok fullShare 32 (wL L)) O W _ k acc
  · unfold drainAt
    isplitr; · ipureintro; omega
    isplitr; · iexact Hmw
    isplitl [HO]
    · iexists _; isplitr
      rotate_left
      · iexact HO
      · ipureintro; intro p hp
        rcases Finset.mem_insert.mp hp with hp | hp
        · exact .inr (hp ▸ rfl)
        exact hWd2 p hp
    rw [if_pos (by decide), Nat.zero_mul]; iexact HB
  iintro %acc HD
  ihave HD' := (show drainAt d L (tile_body_v_of_steps.sl.dma0 m d L) hcF (m (evLoc d)) (Transfers.shareTok fullShare 32 (wL L)) 3 O W (Scf.trips k1_t11_loop.lb k1_t11_loop.ub k1_t11_loop.st) acc
      ⊢ iprop((∃ W', ⌜∀ p ∈ W', p ∈ W ∨ p.2 = none⌝ ∗ owes (thr d L) O W') ∗ semVal (thr d L, SemLoc.dma cc1_scratch4.sem) 0
          ∗ bigSep Finset.univ (Dv d L (tile_body_v_of_steps.sl.dma0 m d L) hcF (m (evLoc d)) (Transfers.shareTok fullShare 32 (wL L)) 3)) from by
    unfold drainAt
    rw [show Scf.trips k1_t11_loop.lb k1_t11_loop.ub k1_t11_loop.st = 64 from rfl, if_neg (Nat.lt_irrefl _)]
    iintro ⟨-, -, HO, Hc, Hall⟩
    isplitl [HO]; · iexact HO
    isplitl [Hc] <;> iassumption) $$ HD
  icases HD' with ⟨⟨%Wd3, %hWd3, HO⟩, Hc4', Hall⟩
  ihave Hcol := (collect' d L (tile_body_v_of_steps.sl.dma0 m d L) hcF (m (evLoc d)) (Transfers.shareTok fullShare 32 (wL L)) 3) $$ [Hall Htr]
  · isplitl [Hall] <;> iassumption
  icases Hcol with ⟨Hs1', Htoks⟩
  ihave Hev' := (toks_split d L (m (evLoc d)) (Transfers.shareTok fullShare 32 (wL L))).2 $$ [Hevrest Htoks]
  · isplitl [Hevrest] <;> iassumption
  -- chunk 3: the 64 elements' partial products
  sl_exec
  sl_for (EA 3 (tile_body_v_of_steps.sl.dma0 m d L) (m (evLoc d)) (tile_body_v_of_steps.sl.dma0_4 d L U)) $$ [Hs1' Hs2' Hs3']
  · intro e acc; exact helem3 _ _ hcen hU3 _ e acc
  · iapply (hEAin 3 (tile_body_v_of_steps.sl.dma0 m d L) (tile_body_v_of_steps.sl.dma0_4 d L U) pf2 hcen hU3 hP3)
    isplitl [Hs1']; · iexact Hs1'
    isplitl [Hs2'] <;> iassumption
  iintro %acc HE
  ihave HE' := (show EA 3 (tile_body_v_of_steps.sl.dma0 m d L) (m (evLoc d)) (tile_body_v_of_steps.sl.dma0_4 d L U) (Scf.trips k1_t12_loop.lb k1_t12_loop.ub k1_t12_loop.st) acc ⊢ _ from hEAout 3 (tile_body_v_of_steps.sl.dma0 m d L) (tile_body_v_of_steps.sl.dma0_4 d L U) acc) $$ HE
  icases HE' with ⟨%pf3, %hpf3, Hs1', Hs2', Hs3'⟩
  sl_exec
  rw [View.write_whole_univ]
  have hU4 : UjOK d L U 4 (tile_body_v_of_steps.sl.dma0_5 d L U) := fun y => by
    unfold tile_body_v_of_steps.sl.dma0_5
    exact read_urowsK d L U 4 y
  have hP4 : okBelow m d L U (1024 * ((4 : Fin 8) : ℕ)) pf3 := hpf3
  -- chunk 4: the gather's 64 copies issued on the one semaphore
  ihave Hrows := (rows_split d L _) $$ Hs1'
  ihave Htk := (toks_split d L (m (evLoc d)) (Transfers.shareTok fullShare 32 (wL L))).1 $$ Hev'
  icases Htk with ⟨Hevrest, Htoks⟩
  imod (Transfers.batch_alloc' (Lvl := ℕ) (countersEmb (U := UU)) (thr d L) (none : HIx 2) NR
    (Dv d L (tile_body_v_of_steps.sl.dma0 m d L) hcF (m (evLoc d)) (Transfers.shareTok fullShare 32 (wL L)) 4) (sm := .dma cc1_scratch4.sem) (E := Set.univ)) $$ Hc4' with HB
  sl_for (issueAt d L (tile_body_v_of_steps.sl.dma0 m d L) hcF (m (evLoc d)) (Transfers.shareTok fullShare 32 (wL L)) 4) $$ [HB Hs0' Hrows Htoks]
  · intro g acc; exact hissue4 _ hcF _ _ _ g acc
  · unfold issueAt
    isplitl [HB]; · iexact HB
    isplitl [Hs0']; · iexact Hs0'
    isplitl [Hrows]; · iexact Hrows
    isplitl [Htoks]; · iexact Htoks
    rw [Ring.bigSep_rangeSet_empty (le_refl _)]; iempintro
  iintro %acc HI
  ihave HI' := (show issueAt d L (tile_body_v_of_steps.sl.dma0 m d L) hcF (m (evLoc d)) (Transfers.shareTok fullShare 32 (wL L)) 4 (Scf.trips k1_t13_loop.lb k1_t13_loop.ub k1_t13_loop.st) acc
      ⊢ iprop(batch d L (tile_body_v_of_steps.sl.dma0 m d L) hcF (m (evLoc d)) (Transfers.shareTok fullShare 32 (wL L)) 4 64 0 ∗ ((s0).view.loc (thr d L) ↦{fullShare} (tile_body_v_of_steps.sl.dma0 m d L))
          ∗ bigSep (Ring.rangeSet 64 0 64) (tokRest d L (tile_body_v_of_steps.sl.dma0 m d L) hcF (m (evLoc d)) (Transfers.shareTok fullShare 32 (wL L)) 4)) from by
    unfold issueAt
    rw [show Scf.trips k1_t13_loop.lb k1_t13_loop.ub k1_t13_loop.st = 4 from rfl, Ring.bigSep_rangeSet_empty (le_refl _), Ring.bigSep_rangeSet_empty (le_refl _)]
    iintro ⟨HB, Hs, -, -, Hr⟩
    isplitl [HB]; · iexact HB
    isplitl [Hs]; · iexact Hs
    iexact Hr) $$ HI
  icases HI' with ⟨HB, Hs0', Htr⟩
  -- chunk 4: the 64 waits
  sl_exec
  sl_for (drainAt d L (tile_body_v_of_steps.sl.dma0 m d L) hcF (m (evLoc d)) (Transfers.shareTok fullShare 32 (wL L)) 4 O W) $$ [HB HO]
  · intro k acc; exact drain_step4 d L (tile_body_v_of_steps.sl.dma0 m d L) hcF (m (evLoc d)) (Transfers.shareTok fullShare 32 (wL L)) O W _ k acc
  · unfold drainAt
    isplitr; · ipureintro; omega
    isplitr; · iexact Hmw
    isplitl [HO]
    · iexists _; isplitr
      rotate_left
      · iexact HO
      · ipureintro; intro p hp
        rcases Finset.mem_insert.mp hp with hp | hp
        · exact .inr (hp ▸ rfl)
        exact hWd3 p hp
    rw [if_pos (by decide), Nat.zero_mul]; iexact HB
  iintro %acc HD
  ihave HD' := (show drainAt d L (tile_body_v_of_steps.sl.dma0 m d L) hcF (m (evLoc d)) (Transfers.shareTok fullShare 32 (wL L)) 4 O W (Scf.trips k1_t14_loop.lb k1_t14_loop.ub k1_t14_loop.st) acc
      ⊢ iprop((∃ W', ⌜∀ p ∈ W', p ∈ W ∨ p.2 = none⌝ ∗ owes (thr d L) O W') ∗ semVal (thr d L, SemLoc.dma cc1_scratch4.sem) 0
          ∗ bigSep Finset.univ (Dv d L (tile_body_v_of_steps.sl.dma0 m d L) hcF (m (evLoc d)) (Transfers.shareTok fullShare 32 (wL L)) 4)) from by
    unfold drainAt
    rw [show Scf.trips k1_t14_loop.lb k1_t14_loop.ub k1_t14_loop.st = 64 from rfl, if_neg (Nat.lt_irrefl _)]
    iintro ⟨-, -, HO, Hc, Hall⟩
    isplitl [HO]; · iexact HO
    isplitl [Hc] <;> iassumption) $$ HD
  icases HD' with ⟨⟨%Wd4, %hWd4, HO⟩, Hc4', Hall⟩
  ihave Hcol := (collect' d L (tile_body_v_of_steps.sl.dma0 m d L) hcF (m (evLoc d)) (Transfers.shareTok fullShare 32 (wL L)) 4) $$ [Hall Htr]
  · isplitl [Hall] <;> iassumption
  icases Hcol with ⟨Hs1', Htoks⟩
  ihave Hev' := (toks_split d L (m (evLoc d)) (Transfers.shareTok fullShare 32 (wL L))).2 $$ [Hevrest Htoks]
  · isplitl [Hevrest] <;> iassumption
  -- chunk 4: the 64 elements' partial products
  sl_exec
  sl_for (EA 4 (tile_body_v_of_steps.sl.dma0 m d L) (m (evLoc d)) (tile_body_v_of_steps.sl.dma0_5 d L U)) $$ [Hs1' Hs2' Hs3']
  · intro e acc; exact helem4 _ _ hcen hU4 _ e acc
  · iapply (hEAin 4 (tile_body_v_of_steps.sl.dma0 m d L) (tile_body_v_of_steps.sl.dma0_5 d L U) pf3 hcen hU4 hP4)
    isplitl [Hs1']; · iexact Hs1'
    isplitl [Hs2'] <;> iassumption
  iintro %acc HE
  ihave HE' := (show EA 4 (tile_body_v_of_steps.sl.dma0 m d L) (m (evLoc d)) (tile_body_v_of_steps.sl.dma0_5 d L U) (Scf.trips k1_t15_loop.lb k1_t15_loop.ub k1_t15_loop.st) acc ⊢ _ from hEAout 4 (tile_body_v_of_steps.sl.dma0 m d L) (tile_body_v_of_steps.sl.dma0_5 d L U) acc) $$ HE
  icases HE' with ⟨%pf4, %hpf4, Hs1', Hs2', Hs3'⟩
  sl_exec
  rw [View.write_whole_univ]
  have hU5 : UjOK d L U 5 (tile_body_v_of_steps.sl.dma0_6 d L U) := fun y => by
    unfold tile_body_v_of_steps.sl.dma0_6
    exact read_urowsK d L U 5 y
  have hP5 : okBelow m d L U (1024 * ((5 : Fin 8) : ℕ)) pf4 := hpf4
  -- chunk 5: the gather's 64 copies issued on the one semaphore
  ihave Hrows := (rows_split d L _) $$ Hs1'
  ihave Htk := (toks_split d L (m (evLoc d)) (Transfers.shareTok fullShare 32 (wL L))).1 $$ Hev'
  icases Htk with ⟨Hevrest, Htoks⟩
  imod (Transfers.batch_alloc' (Lvl := ℕ) (countersEmb (U := UU)) (thr d L) (none : HIx 2) NR
    (Dv d L (tile_body_v_of_steps.sl.dma0 m d L) hcF (m (evLoc d)) (Transfers.shareTok fullShare 32 (wL L)) 5) (sm := .dma cc1_scratch4.sem) (E := Set.univ)) $$ Hc4' with HB
  sl_for (issueAt d L (tile_body_v_of_steps.sl.dma0 m d L) hcF (m (evLoc d)) (Transfers.shareTok fullShare 32 (wL L)) 5) $$ [HB Hs0' Hrows Htoks]
  · intro g acc; exact hissue5 _ hcF _ _ _ g acc
  · unfold issueAt
    isplitl [HB]; · iexact HB
    isplitl [Hs0']; · iexact Hs0'
    isplitl [Hrows]; · iexact Hrows
    isplitl [Htoks]; · iexact Htoks
    rw [Ring.bigSep_rangeSet_empty (le_refl _)]; iempintro
  iintro %acc HI
  ihave HI' := (show issueAt d L (tile_body_v_of_steps.sl.dma0 m d L) hcF (m (evLoc d)) (Transfers.shareTok fullShare 32 (wL L)) 5 (Scf.trips k1_t16_loop.lb k1_t16_loop.ub k1_t16_loop.st) acc
      ⊢ iprop(batch d L (tile_body_v_of_steps.sl.dma0 m d L) hcF (m (evLoc d)) (Transfers.shareTok fullShare 32 (wL L)) 5 64 0 ∗ ((s0).view.loc (thr d L) ↦{fullShare} (tile_body_v_of_steps.sl.dma0 m d L))
          ∗ bigSep (Ring.rangeSet 64 0 64) (tokRest d L (tile_body_v_of_steps.sl.dma0 m d L) hcF (m (evLoc d)) (Transfers.shareTok fullShare 32 (wL L)) 5)) from by
    unfold issueAt
    rw [show Scf.trips k1_t16_loop.lb k1_t16_loop.ub k1_t16_loop.st = 4 from rfl, Ring.bigSep_rangeSet_empty (le_refl _), Ring.bigSep_rangeSet_empty (le_refl _)]
    iintro ⟨HB, Hs, -, -, Hr⟩
    isplitl [HB]; · iexact HB
    isplitl [Hs]; · iexact Hs
    iexact Hr) $$ HI
  icases HI' with ⟨HB, Hs0', Htr⟩
  -- chunk 5: the 64 waits
  sl_exec
  sl_for (drainAt d L (tile_body_v_of_steps.sl.dma0 m d L) hcF (m (evLoc d)) (Transfers.shareTok fullShare 32 (wL L)) 5 O W) $$ [HB HO]
  · intro k acc; exact drain_step5 d L (tile_body_v_of_steps.sl.dma0 m d L) hcF (m (evLoc d)) (Transfers.shareTok fullShare 32 (wL L)) O W _ k acc
  · unfold drainAt
    isplitr; · ipureintro; omega
    isplitr; · iexact Hmw
    isplitl [HO]
    · iexists _; isplitr
      rotate_left
      · iexact HO
      · ipureintro; intro p hp
        rcases Finset.mem_insert.mp hp with hp | hp
        · exact .inr (hp ▸ rfl)
        exact hWd4 p hp
    rw [if_pos (by decide), Nat.zero_mul]; iexact HB
  iintro %acc HD
  ihave HD' := (show drainAt d L (tile_body_v_of_steps.sl.dma0 m d L) hcF (m (evLoc d)) (Transfers.shareTok fullShare 32 (wL L)) 5 O W (Scf.trips k1_t17_loop.lb k1_t17_loop.ub k1_t17_loop.st) acc
      ⊢ iprop((∃ W', ⌜∀ p ∈ W', p ∈ W ∨ p.2 = none⌝ ∗ owes (thr d L) O W') ∗ semVal (thr d L, SemLoc.dma cc1_scratch4.sem) 0
          ∗ bigSep Finset.univ (Dv d L (tile_body_v_of_steps.sl.dma0 m d L) hcF (m (evLoc d)) (Transfers.shareTok fullShare 32 (wL L)) 5)) from by
    unfold drainAt
    rw [show Scf.trips k1_t17_loop.lb k1_t17_loop.ub k1_t17_loop.st = 64 from rfl, if_neg (Nat.lt_irrefl _)]
    iintro ⟨-, -, HO, Hc, Hall⟩
    isplitl [HO]; · iexact HO
    isplitl [Hc] <;> iassumption) $$ HD
  icases HD' with ⟨⟨%Wd5, %hWd5, HO⟩, Hc4', Hall⟩
  ihave Hcol := (collect' d L (tile_body_v_of_steps.sl.dma0 m d L) hcF (m (evLoc d)) (Transfers.shareTok fullShare 32 (wL L)) 5) $$ [Hall Htr]
  · isplitl [Hall] <;> iassumption
  icases Hcol with ⟨Hs1', Htoks⟩
  ihave Hev' := (toks_split d L (m (evLoc d)) (Transfers.shareTok fullShare 32 (wL L))).2 $$ [Hevrest Htoks]
  · isplitl [Hevrest] <;> iassumption
  -- chunk 5: the 64 elements' partial products
  sl_exec
  sl_for (EA 5 (tile_body_v_of_steps.sl.dma0 m d L) (m (evLoc d)) (tile_body_v_of_steps.sl.dma0_6 d L U)) $$ [Hs1' Hs2' Hs3']
  · intro e acc; exact helem5 _ _ hcen hU5 _ e acc
  · iapply (hEAin 5 (tile_body_v_of_steps.sl.dma0 m d L) (tile_body_v_of_steps.sl.dma0_6 d L U) pf4 hcen hU5 hP5)
    isplitl [Hs1']; · iexact Hs1'
    isplitl [Hs2'] <;> iassumption
  iintro %acc HE
  ihave HE' := (show EA 5 (tile_body_v_of_steps.sl.dma0 m d L) (m (evLoc d)) (tile_body_v_of_steps.sl.dma0_6 d L U) (Scf.trips k1_t18_loop.lb k1_t18_loop.ub k1_t18_loop.st) acc ⊢ _ from hEAout 5 (tile_body_v_of_steps.sl.dma0 m d L) (tile_body_v_of_steps.sl.dma0_6 d L U) acc) $$ HE
  icases HE' with ⟨%pf5, %hpf5, Hs1', Hs2', Hs3'⟩
  sl_exec
  rw [View.write_whole_univ]
  have hU6 : UjOK d L U 6 (tile_body_v_of_steps.sl.dma0_7 d L U) := fun y => by
    unfold tile_body_v_of_steps.sl.dma0_7
    exact read_urowsK d L U 6 y
  have hP6 : okBelow m d L U (1024 * ((6 : Fin 8) : ℕ)) pf5 := hpf5
  -- chunk 6: the gather's 64 copies issued on the one semaphore
  ihave Hrows := (rows_split d L _) $$ Hs1'
  ihave Htk := (toks_split d L (m (evLoc d)) (Transfers.shareTok fullShare 32 (wL L))).1 $$ Hev'
  icases Htk with ⟨Hevrest, Htoks⟩
  imod (Transfers.batch_alloc' (Lvl := ℕ) (countersEmb (U := UU)) (thr d L) (none : HIx 2) NR
    (Dv d L (tile_body_v_of_steps.sl.dma0 m d L) hcF (m (evLoc d)) (Transfers.shareTok fullShare 32 (wL L)) 6) (sm := .dma cc1_scratch4.sem) (E := Set.univ)) $$ Hc4' with HB
  sl_for (issueAt d L (tile_body_v_of_steps.sl.dma0 m d L) hcF (m (evLoc d)) (Transfers.shareTok fullShare 32 (wL L)) 6) $$ [HB Hs0' Hrows Htoks]
  · intro g acc; exact hissue6 _ hcF _ _ _ g acc
  · unfold issueAt
    isplitl [HB]; · iexact HB
    isplitl [Hs0']; · iexact Hs0'
    isplitl [Hrows]; · iexact Hrows
    isplitl [Htoks]; · iexact Htoks
    rw [Ring.bigSep_rangeSet_empty (le_refl _)]; iempintro
  iintro %acc HI
  ihave HI' := (show issueAt d L (tile_body_v_of_steps.sl.dma0 m d L) hcF (m (evLoc d)) (Transfers.shareTok fullShare 32 (wL L)) 6 (Scf.trips k1_t19_loop.lb k1_t19_loop.ub k1_t19_loop.st) acc
      ⊢ iprop(batch d L (tile_body_v_of_steps.sl.dma0 m d L) hcF (m (evLoc d)) (Transfers.shareTok fullShare 32 (wL L)) 6 64 0 ∗ ((s0).view.loc (thr d L) ↦{fullShare} (tile_body_v_of_steps.sl.dma0 m d L))
          ∗ bigSep (Ring.rangeSet 64 0 64) (tokRest d L (tile_body_v_of_steps.sl.dma0 m d L) hcF (m (evLoc d)) (Transfers.shareTok fullShare 32 (wL L)) 6)) from by
    unfold issueAt
    rw [show Scf.trips k1_t19_loop.lb k1_t19_loop.ub k1_t19_loop.st = 4 from rfl, Ring.bigSep_rangeSet_empty (le_refl _), Ring.bigSep_rangeSet_empty (le_refl _)]
    iintro ⟨HB, Hs, -, -, Hr⟩
    isplitl [HB]; · iexact HB
    isplitl [Hs]; · iexact Hs
    iexact Hr) $$ HI
  icases HI' with ⟨HB, Hs0', Htr⟩
  -- chunk 6: the 64 waits
  sl_exec
  sl_for (drainAt d L (tile_body_v_of_steps.sl.dma0 m d L) hcF (m (evLoc d)) (Transfers.shareTok fullShare 32 (wL L)) 6 O W) $$ [HB HO]
  · intro k acc; exact drain_step6 d L (tile_body_v_of_steps.sl.dma0 m d L) hcF (m (evLoc d)) (Transfers.shareTok fullShare 32 (wL L)) O W _ k acc
  · unfold drainAt
    isplitr; · ipureintro; omega
    isplitr; · iexact Hmw
    isplitl [HO]
    · iexists _; isplitr
      rotate_left
      · iexact HO
      · ipureintro; intro p hp
        rcases Finset.mem_insert.mp hp with hp | hp
        · exact .inr (hp ▸ rfl)
        exact hWd5 p hp
    rw [if_pos (by decide), Nat.zero_mul]; iexact HB
  iintro %acc HD
  ihave HD' := (show drainAt d L (tile_body_v_of_steps.sl.dma0 m d L) hcF (m (evLoc d)) (Transfers.shareTok fullShare 32 (wL L)) 6 O W (Scf.trips k1_t20_loop.lb k1_t20_loop.ub k1_t20_loop.st) acc
      ⊢ iprop((∃ W', ⌜∀ p ∈ W', p ∈ W ∨ p.2 = none⌝ ∗ owes (thr d L) O W') ∗ semVal (thr d L, SemLoc.dma cc1_scratch4.sem) 0
          ∗ bigSep Finset.univ (Dv d L (tile_body_v_of_steps.sl.dma0 m d L) hcF (m (evLoc d)) (Transfers.shareTok fullShare 32 (wL L)) 6)) from by
    unfold drainAt
    rw [show Scf.trips k1_t20_loop.lb k1_t20_loop.ub k1_t20_loop.st = 64 from rfl, if_neg (Nat.lt_irrefl _)]
    iintro ⟨-, -, HO, Hc, Hall⟩
    isplitl [HO]; · iexact HO
    isplitl [Hc] <;> iassumption) $$ HD
  icases HD' with ⟨⟨%Wd6, %hWd6, HO⟩, Hc4', Hall⟩
  ihave Hcol := (collect' d L (tile_body_v_of_steps.sl.dma0 m d L) hcF (m (evLoc d)) (Transfers.shareTok fullShare 32 (wL L)) 6) $$ [Hall Htr]
  · isplitl [Hall] <;> iassumption
  icases Hcol with ⟨Hs1', Htoks⟩
  ihave Hev' := (toks_split d L (m (evLoc d)) (Transfers.shareTok fullShare 32 (wL L))).2 $$ [Hevrest Htoks]
  · isplitl [Hevrest] <;> iassumption
  -- chunk 6: the 64 elements' partial products
  sl_exec
  sl_for (EA 6 (tile_body_v_of_steps.sl.dma0 m d L) (m (evLoc d)) (tile_body_v_of_steps.sl.dma0_7 d L U)) $$ [Hs1' Hs2' Hs3']
  · intro e acc; exact helem6 _ _ hcen hU6 e acc
  · iapply (hEAin 6 (tile_body_v_of_steps.sl.dma0 m d L) (tile_body_v_of_steps.sl.dma0_7 d L U) pf5 hcen hU6 hP6)
    isplitl [Hs1']; · iexact Hs1'
    isplitl [Hs2'] <;> iassumption
  iintro %acc HE
  ihave HE' := (show EA 6 (tile_body_v_of_steps.sl.dma0 m d L) (m (evLoc d)) (tile_body_v_of_steps.sl.dma0_7 d L U) (Scf.trips k1_t21_loop.lb k1_t21_loop.ub k1_t21_loop.st) acc ⊢ _ from hEAout 6 (tile_body_v_of_steps.sl.dma0 m d L) (tile_body_v_of_steps.sl.dma0_7 d L U) acc) $$ HE
  icases HE' with ⟨%pf6, %hpf6, Hs1', Hs2', Hs3'⟩
  sl_exec
  rw [View.write_whole_univ]
  have hU7 : UjOK d L U 7 (tile_body_v_of_steps.sl.dma0_8 d L U) := fun y => by
    unfold tile_body_v_of_steps.sl.dma0_8
    exact read_urowsK d L U 7 y
  have hP7 : okBelow m d L U (1024 * ((7 : Fin 8) : ℕ)) pf6 := hpf6
  -- chunk 7: the gather's 64 copies issued on the one semaphore
  ihave Hrows := (rows_split d L _) $$ Hs1'
  ihave Htk := (toks_split d L (m (evLoc d)) (Transfers.shareTok fullShare 32 (wL L))).1 $$ Hev'
  icases Htk with ⟨Hevrest, Htoks⟩
  imod (Transfers.batch_alloc' (Lvl := ℕ) (countersEmb (U := UU)) (thr d L) (none : HIx 2) NR
    (Dv d L (tile_body_v_of_steps.sl.dma0 m d L) hcF (m (evLoc d)) (Transfers.shareTok fullShare 32 (wL L)) 7) (sm := .dma cc1_scratch4.sem) (E := Set.univ)) $$ Hc4' with HB
  sl_for (issueAt d L (tile_body_v_of_steps.sl.dma0 m d L) hcF (m (evLoc d)) (Transfers.shareTok fullShare 32 (wL L)) 7) $$ [HB Hs0' Hrows Htoks]
  · intro g acc; exact hissue7 _ hcF _ _ g acc
  · unfold issueAt
    isplitl [HB]; · iexact HB
    isplitl [Hs0']; · iexact Hs0'
    isplitl [Hrows]; · iexact Hrows
    isplitl [Htoks]; · iexact Htoks
    rw [Ring.bigSep_rangeSet_empty (le_refl _)]; iempintro
  iintro %acc HI
  ihave HI' := (show issueAt d L (tile_body_v_of_steps.sl.dma0 m d L) hcF (m (evLoc d)) (Transfers.shareTok fullShare 32 (wL L)) 7 (Scf.trips k1_t22_loop.lb k1_t22_loop.ub k1_t22_loop.st) acc
      ⊢ iprop(batch d L (tile_body_v_of_steps.sl.dma0 m d L) hcF (m (evLoc d)) (Transfers.shareTok fullShare 32 (wL L)) 7 64 0 ∗ ((s0).view.loc (thr d L) ↦{fullShare} (tile_body_v_of_steps.sl.dma0 m d L))
          ∗ bigSep (Ring.rangeSet 64 0 64) (tokRest d L (tile_body_v_of_steps.sl.dma0 m d L) hcF (m (evLoc d)) (Transfers.shareTok fullShare 32 (wL L)) 7)) from by
    unfold issueAt
    rw [show Scf.trips k1_t22_loop.lb k1_t22_loop.ub k1_t22_loop.st = 4 from rfl, Ring.bigSep_rangeSet_empty (le_refl _), Ring.bigSep_rangeSet_empty (le_refl _)]
    iintro ⟨HB, Hs, -, -, Hr⟩
    isplitl [HB]; · iexact HB
    isplitl [Hs]; · iexact Hs
    iexact Hr) $$ HI
  icases HI' with ⟨HB, Hs0', Htr⟩
  -- chunk 7: the 64 waits
  sl_exec
  sl_for (drainAt d L (tile_body_v_of_steps.sl.dma0 m d L) hcF (m (evLoc d)) (Transfers.shareTok fullShare 32 (wL L)) 7 O W) $$ [HB HO]
  · intro k acc; exact drain_step7 d L (tile_body_v_of_steps.sl.dma0 m d L) hcF (m (evLoc d)) (Transfers.shareTok fullShare 32 (wL L)) O W k acc
  · unfold drainAt
    isplitr; · ipureintro; omega
    isplitr; · iexact Hmw
    isplitl [HO]
    · iexists _; isplitr
      rotate_left
      · iexact HO
      · ipureintro; intro p hp
        rcases Finset.mem_insert.mp hp with hp | hp
        · exact .inr (hp ▸ rfl)
        exact hWd6 p hp
    rw [if_pos (by decide), Nat.zero_mul]; iexact HB
  iintro %acc HD
  ihave HD' := (show drainAt d L (tile_body_v_of_steps.sl.dma0 m d L) hcF (m (evLoc d)) (Transfers.shareTok fullShare 32 (wL L)) 7 O W (Scf.trips k1_t23_loop.lb k1_t23_loop.ub k1_t23_loop.st) acc
      ⊢ iprop((∃ W', ⌜∀ p ∈ W', p ∈ W ∨ p.2 = none⌝ ∗ owes (thr d L) O W') ∗ semVal (thr d L, SemLoc.dma cc1_scratch4.sem) 0
          ∗ bigSep Finset.univ (Dv d L (tile_body_v_of_steps.sl.dma0 m d L) hcF (m (evLoc d)) (Transfers.shareTok fullShare 32 (wL L)) 7)) from by
    unfold drainAt
    rw [show Scf.trips k1_t23_loop.lb k1_t23_loop.ub k1_t23_loop.st = 64 from rfl, if_neg (Nat.lt_irrefl _)]
    iintro ⟨-, -, HO, Hc, Hall⟩
    isplitl [HO]; · iexact HO
    isplitl [Hc] <;> iassumption) $$ HD
  icases HD' with ⟨⟨%Wd7, %hWd7, HO⟩, Hc4', Hall⟩
  ihave Hcol := (collect' d L (tile_body_v_of_steps.sl.dma0 m d L) hcF (m (evLoc d)) (Transfers.shareTok fullShare 32 (wL L)) 7) $$ [Hall Htr]
  · isplitl [Hall] <;> iassumption
  icases Hcol with ⟨Hs1', Htoks⟩
  ihave Hev' := (toks_split d L (m (evLoc d)) (Transfers.shareTok fullShare 32 (wL L))).2 $$ [Hevrest Htoks]
  · isplitl [Hevrest] <;> iassumption
  -- chunk 7: the 64 elements' partial products
  sl_exec
  sl_for (EA 7 (tile_body_v_of_steps.sl.dma0 m d L) (m (evLoc d)) (tile_body_v_of_steps.sl.dma0_8 d L U)) $$ [Hs1' Hs2' Hs3']
  · intro e acc; exact helem7 _ _ hcen hU7 e acc
  · iapply (hEAin 7 (tile_body_v_of_steps.sl.dma0 m d L) (tile_body_v_of_steps.sl.dma0_8 d L U) pf6 hcen hU7 hP7)
    isplitl [Hs1']; · iexact Hs1'
    isplitl [Hs2'] <;> iassumption
  iintro %acc HE
  ihave HE' := (show EA 7 (tile_body_v_of_steps.sl.dma0 m d L) (m (evLoc d)) (tile_body_v_of_steps.sl.dma0_8 d L U) (Scf.trips k1_t24_loop.lb k1_t24_loop.ub k1_t24_loop.st) acc ⊢ _ from hEAout 7 (tile_body_v_of_steps.sl.dma0 m d L) (tile_body_v_of_steps.sl.dma0_8 d L U) acc) $$ HE
  icases HE' with ⟨%pf7, %hpf7, Hs1', Hs2', Hs3'⟩
  sl_exec
  sl_step
  -- what the last copy wrote into the subcore's slice of the partial products is their value
  have hpay : ∀ x : S8192.Idx, ((pW).slice (pposKRect L) (fun _ => rfl)).view.read (Elt F) (pposF m d U) x
      = (tile_body_v_of_steps.sl.dma0_9 d L pf7 : S8192.Idx → F .f32) x := fun x => by
    have hx : (x 0).val < 1024 * (((7 : Fin 8) : ℕ) + 1) := by
      have h1 : (x 0).val < 8192 := (x 0).isLt
      exact h1
    rw [read_pposK d L (pposF m d U) x, ← hpf7 x hx]
    unfold tile_body_v_of_steps.sl.dma0_9
    rfl
  have hppos : ∀ i ∈ (pposK L).view.set,
      (pposK L).view.writes (Elt F) f0 [⟨Rect.whole S8192, tile_body_v_of_steps.sl.dma0_9 d L pf7⟩] i = (pposF m d U : Buf (Elt F) (pposLoc d)) i :=
    TileVLand.writes_whole_eq_on (pposK L).view f0 (pposF m d U) _ hpay
  ihave Hpp'' := (Entails.of_eq (pointsTo_congr (ℓ := (pposK L).view.loc (thr d L)) (q := fullShare) hppos)) $$ Hpp'
  isplitl [Hcen' Hev' Hu0 Hu1 Hu2 Hu3 Hu4 Hu5 Hu6 Hu7 Hpp'']
  · isplitl [Hcen']; · iapply (Entails.of_eq (pts_center d L _)); iexact Hcen'
    isplitl [Hev']; · iapply (Entails.of_eq (pts_ev d L _ _)); iexact Hev'
    isplitl [Hu0 Hu1 Hu2 Hu3 Hu4 Hu5 Hu6 Hu7]
    · iapply (Entails.of_eq ((pts_urows d L _).trans (bigSep_fin8 _)).symm)
      isplitl [Hu0]; · iexact Hu0
      isplitl [Hu1]; · iexact Hu1
      isplitl [Hu2]; · iexact Hu2
      isplitl [Hu3]; · iexact Hu3
      isplitl [Hu4]; · iexact Hu4
      isplitl [Hu5]; · iexact Hu5
      isplitl [Hu6]; · iexact Hu6
      iexact Hu7
    · iapply (Entails.of_eq (pts_ppos d L _)); iexact Hpp''
  isplitl [Hs0' Hs1' Hs2' Hs3' Hbrest]
  · isplitr [Hbrest]
    · isplitl [Hs0']; · iexists _; iapply (Entails.of_eq (pts_s0 d L _)); iexact Hs0'
      isplitl [Hs1']; · iexists _; iapply (Entails.of_eq (pts_s1 d L _)); iexact Hs1'
      isplitl [Hs2']; · iexists _; iapply (Entails.of_eq (pts_s2 d L _)); iexact Hs2'
      iexists _; iapply (Entails.of_eq (pts_s3 d L _)); iexact Hs3'
    · iexact Hbrest
  isplitl [Hc4' Hr0' Hr1' Hr2' Hr3' Hr4' Hr5' Hr6' Hr7' Hr8' Hr9' Hsrest]
  · isplitr [Hsrest]
    · isplitl [Hc4']; · iexact Hc4'
      isplitl [Hr0']; · iexact Hr0'
      isplitl [Hr1']; · iexact Hr1'
      isplitl [Hr2']; · iexact Hr2'
      isplitl [Hr3']; · iexact Hr3'
      isplitl [Hr4']; · iexact Hr4'
      isplitl [Hr5']; · iexact Hr5'
      isplitl [Hr6']; · iexact Hr6'
      isplitl [Hr7']; · iexact Hr7'
      isplitl [Hr8']; · iexact Hr8'
      iexact Hr9'
    · iexact Hsrest
  iexists _; isplitr
  rotate_left
  · iexact HO
  · ipureintro; intro p hp
    rcases Finset.mem_insert.mp hp with hp | hp
    · exact .inr (hp ▸ rfl)
    exact hWd7 p hp

end Cert.Proof.KTileV

end
-- ==== Proof.KTileVElemLem.lean ====
/-
  One element trip's value. Trip `e` of chunk `j`'s element loop reads the four 16-lane pieces of row `e` of the
  gathered rows and of the context rows, and stores the 16 lanes `((v₀·u₀ + v₁·u₁) + v₂·u₂) + v₃·u₃` at entries
  `[16(64j + e), 16(64j + e) + 16)` of the partial-products scratch. If the scratch agreed with a target array
  below entry `16(64j + e)`, and the target's next 16 entries are those lanes, the written scratch agrees with the
  target below entry `16(64j + e + 1)`.
-/
import proofs.«218857_g62938450756068_cont_9to1c4b_813_41_alg».proof.Proof.KTileVInv
import proofs.«218857_g62938450756068_cont_9to1c4b_813_41_alg».proof.Proof.TileVLane

noncomputable section

namespace Cert.Proof.KTileVElemLem

open Cert.Kernel Cert.Kernel.Gen Cert.Proof.KernelBase Cert.Proof.KTileVDefs Cert.Proof.KTileVMem Cert.Proof.KTileVInv

open Idealize.ShloMosaic
open Idealize.ShloMosaic.ValueIdx
open Idealize.ShloMosaic.SparseCore (S V T)
open Idealize.ShloMosaic.SparseCore.Cfg (HIx Pay)

variable {F : FTy → Type} [FloatOps F]

variable (d : Dev nD) (L : grid1.Coords)

/-- Lane `l` of the 16-lane piece at column `cc` of row `e` of the gathered rows is the scratch's `(e, cc + l)`. -/
theorem read_piece1 (G : Buf (Elt F) (l1 d L)) (e cc : ℕ) (off : Fin 2 → ℕ) (h : ∀ a, off a + S1x16.size a ≤ S64x64.size a)
    [c : ClosedOff off] (eform : c.form = ![e, cc]) (l : Fin 16) (he : e < 64) (hc : cc + l.val < 64) :
    View.readAt (Elt F) (s1).view (Rect.unit (s := S64x64) off S1x16.size h).toLoadRect G (ix2 (0 : Fin 1) l)
      = (G : S64x64.Idx → F .f32) (ix2 (⟨e, he⟩ : Fin 64) (⟨cc + l.val, hc⟩ : Fin 64)) := by
  have eoff : off = ![e, cc] := c.eq.trans eform
  subst eoff
  refine (View.read_apply (v := (s1).view) (Val := Elt F) G ((Rect.unit (s := S64x64) ![e, cc] S1x16.size h).toLoadRect.idx (ix2 (0 : Fin 1) l))).trans ?_
  refine (cast_eq _ _).trans (congrArg (G : S64x64.Idx → F .f32) ?_)
  funext a; apply Fin.ext
  match a with
  | ⟨0, _⟩ => show e + 1 * 0 = e; omega
  | ⟨1, _⟩ => show cc + 1 * l.val = cc + l.val; omega

/-- The same for the context-rows scratch. -/
theorem read_piece2 (Uj : Buf (Elt F) (l2 d L)) (e cc : ℕ) (off : Fin 2 → ℕ) (h : ∀ a, off a + S1x16.size a ≤ S64x64.size a)
    [c : ClosedOff off] (eform : c.form = ![e, cc]) (l : Fin 16) (he : e < 64) (hc : cc + l.val < 64) :
    View.readAt (Elt F) (s2).view (Rect.unit (s := S64x64) off S1x16.size h).toLoadRect Uj (ix2 (0 : Fin 1) l)
      = (Uj : S64x64.Idx → F .f32) (ix2 (⟨e, he⟩ : Fin 64) (⟨cc + l.val, hc⟩ : Fin 64)) := by
  have eoff : off = ![e, cc] := c.eq.trans eform
  subst eoff
  refine (View.read_apply (v := (s2).view) (Val := Elt F) Uj ((Rect.unit (s := S64x64) ![e, cc] S1x16.size h).toLoadRect.idx (ix2 (0 : Fin 1) l))).trans ?_
  refine (cast_eq _ _).trans (congrArg (Uj : S64x64.Idx → F .f32) ?_)
  funext a; apply Fin.ext
  match a with
  | ⟨0, _⟩ => show e + 1 * 0 = e; omega
  | ⟨1, _⟩ => show cc + 1 * l.val = cc + l.val; omega

/-- Lane `l` of what the trip stores, from the two scratch arrays. -/
def laneVal (G : Buf (Elt F) (l1 d L)) (Uj : Buf (Elt F) (l2 d L)) (e : Fin 64) (l : Fin 16) : F .f32 :=
  let v : Fin 4 → F .f32 := fun t => (G : S64x64.Idx → F .f32) (ix2 e (lane t l))
  let u : Fin 4 → F .f32 := fun t => (Uj : S64x64.Idx → F .f32) (ix2 e (lane t l))
  FloatOps.addf (FloatOps.addf (FloatOps.addf (FloatOps.mulf (v 0) (u 0)) (FloatOps.mulf (v 1) (u 1))) (FloatOps.mulf (v 2) (u 2))) (FloatOps.mulf (v 3) (u 3))

/-- One stored vector: if the scratch agreed with the target below entry `base` and the stored 16 lanes are the target's
    next 16 entries, the written scratch agrees with the target below entry `base + 16`. -/
theorem write_step (pf tgt : Buf (Elt F) (l3 d L))
    (op : Fin 1 → ℕ) (hp : ∀ a, op a + S16.size a ≤ S8192.size a) [cp : ClosedOff op] (base : ℕ) (ep : cp.form = ![base])
    (W : S16.Idx → F .f32)
    (hpf : ∀ y : S8192.Idx, (y 0).val < base → (pf : S8192.Idx → F .f32) y = (tgt : S8192.Idx → F .f32) y)
    (hW : ∀ (l : Fin 16) (hl : base + l.val < 8192), W (ix1 l) = (tgt : S8192.Idx → F .f32) (ix1 (⟨base + l.val, hl⟩ : Fin 8192))) :
    ∀ y : S8192.Idx, (y 0).val < base + 16 →
      ((s3).view.writes (Elt F) pf [⟨Rect.unit (s := S8192) op S16.size hp, W⟩] : S8192.Idx → F .f32) y = (tgt : S8192.Idx → F .f32) y := by
  have eop : op = ![base] := cp.eq.trans ep
  subst eop
  intro y hy
  have hy8 : (y 0).val < 8192 := (y 0).isLt
  by_cases hin : base ≤ (y 0).val
  · have hl : (y 0).val - base < 16 := by omega
    have hyeq : y = (Rect.unit (s := S8192) ![base] S16.size hp).emb (ix1 (⟨(y 0).val - base, hl⟩ : Fin 16)) := by
      funext a; apply Fin.ext
      match a with
      | ⟨0, _⟩ => show (y 0).val = base + 1 * ((y 0).val - base); omega
    have hw := View.read_writes_cons_emb (v := (s3).view) (Val := Elt F) pf (Rect.unit (s := S8192) ![base] S16.size hp) W []
      (ix1 (⟨(y 0).val - base, hl⟩ : Fin 16))
    rw [← hyeq] at hw
    refine hw.trans ?_
    refine (hW ⟨(y 0).val - base, hl⟩ (by show base + ((y 0).val - base) < 8192; omega)).trans ?_
    apply congrArg (tgt : S8192.Idx → F .f32)
    funext a; apply Fin.ext
    match a with
    | ⟨0, _⟩ => show base + ((y 0).val - base) = (y 0).val; omega
  · have hlt : (y 0).val < base := by omega
    have hnot : ∀ p ∈ ([⟨Rect.unit (s := S8192) ![base] S16.size hp, W⟩] : List (View.Piece (Elt F) S8192 .f32)), y ∉ p.1.set := by
      intro p hp'
      rw [List.mem_singleton] at hp'
      subst hp'
      rw [Rect.mem_set_unit]
      intro H
      have h0' : base ≤ (y 0).val ∧ (y 0).val < base + 16 := H 0
      omega
    exact (View.read_writes_apply_of_forall_not_mem (v := (s3).view) (Val := Elt F) pf y _ hnot).trans (hpf y hlt)

/-- Lane `l` of the stored vector is `laneVal`. -/
theorem pay_lane (G : Buf (Elt F) (l1 d L)) (Uj : Buf (Elt F) (l2 d L)) (e : Fin 64)
    (o0 o1 o2 o3 : Fin 2 → ℕ) (h0 : ∀ a, o0 a + S1x16.size a ≤ S64x64.size a) (h1 : ∀ a, o1 a + S1x16.size a ≤ S64x64.size a)
    (h2 : ∀ a, o2 a + S1x16.size a ≤ S64x64.size a) (h3 : ∀ a, o3 a + S1x16.size a ≤ S64x64.size a)
    [c0 : ClosedOff o0] [c1 : ClosedOff o1] [c2 : ClosedOff o2] [c3 : ClosedOff o3]
    (e0 : c0.form = ![e.val, 0]) (e1 : c1.form = ![e.val, 16]) (e2 : c2.form = ![e.val, 32]) (e3 : c3.form = ![e.val, 48])
    (hcast1 : S1x16.ShapeCasts S16) (hcast2 : S16.ShapeCasts S16) (l : Fin 16) :
    shapeCast S16 (TileVLane.pay hcast1
        (View.readAt (Elt F) (s1).view (Rect.unit (s := S64x64) o0 S1x16.size h0).toLoadRect G)
        (View.readAt (Elt F) (s2).view (Rect.unit (s := S64x64) o0 S1x16.size h0).toLoadRect Uj)
        (View.readAt (Elt F) (s1).view (Rect.unit (s := S64x64) o1 S1x16.size h1).toLoadRect G)
        (View.readAt (Elt F) (s2).view (Rect.unit (s := S64x64) o1 S1x16.size h1).toLoadRect Uj)
        (View.readAt (Elt F) (s1).view (Rect.unit (s := S64x64) o2 S1x16.size h2).toLoadRect G)
        (View.readAt (Elt F) (s2).view (Rect.unit (s := S64x64) o2 S1x16.size h2).toLoadRect Uj)
        (View.readAt (Elt F) (s1).view (Rect.unit (s := S64x64) o3 S1x16.size h3).toLoadRect G)
        (View.readAt (Elt F) (s2).view (Rect.unit (s := S64x64) o3 S1x16.size h3).toLoadRect Uj)) hcast2 (ix1 l)
      = laneVal d L G Uj e l := by
  have he : e.val < 64 := e.isLt
  have hl : l.val < 16 := l.isLt
  rw [shapeCast_self]
  refine (TileVLane.pay_apply hcast1 _ _ _ _ _ _ _ _ l).trans ?_
  rw [read_piece1 d L G e.val 0 o0 h0 e0 l he (by omega), read_piece2 d L Uj e.val 0 o0 h0 e0 l he (by omega),
    read_piece1 d L G e.val 16 o1 h1 e1 l he (by omega), read_piece2 d L Uj e.val 16 o1 h1 e1 l he (by omega),
    read_piece1 d L G e.val 32 o2 h2 e2 l he (by omega), read_piece2 d L Uj e.val 32 o2 h2 e2 l he (by omega),
    read_piece1 d L G e.val 48 o3 h3 e3 l he (by omega), read_piece2 d L Uj e.val 48 o3 h3 e3 l he (by omega)]
  rfl

end Cert.Proof.KTileVElemLem

end
-- ==== Proof.KTileVElemInv.lean ====
/-
  The element loop's invariant, and what it is about. After chunk `j`'s gather the gathered-rows scratch holds,
  in row `e`, the table row named by the centre word of the subcore's element `64j + e`; the context-rows scratch
  holds the subcore's context rows `64j … 64j + 63`. Trip `e` writes the 16 lanes of element `64j + e` into the
  partial-products scratch; before trip `e` the scratch already agrees with the kernel's result (the subcore's slice
  of `pposF`) below entry `16(64j + e)`.
-/
import proofs.«218857_g62938450756068_cont_9to1c4b_813_41_alg».proof.Proof.KTileVElemLem

noncomputable section

namespace Cert.Proof.KTileVElemInv

open Cert.Kernel Cert.Kernel.Gen Cert.Proof.KernelBase Cert.Proof.KTileVDefs Cert.Proof.KTileVMem Cert.Proof.KTileVInv
open Cert.Proof.KTileVElemLem

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable (m : (ℓ : Loc nD τ sig) → Buf (Elt F) ℓ) (d : Dev nD) (L : grid1.Coords)

theorem center_inb (x : S512.Idx) : 512 * (wL L).val + (x 0).val < 16384 := by
  have h : (x 0).val < 512 := (x 0).isLt; have := (wL L).isLt; omega
theorem urow_inb (j : Fin 8) (y : S64x64.Idx) : 512 * (wL L).val + 64 * j.val + (y 0).val < 16384 := by
  have h : (y 0).val < 64 := (y 0).isLt; have := (wL L).isLt; have := j.isLt; omega
theorem ppos_inb (x : S8192.Idx) : 8192 * (wL L).val + (x 0).val < 262144 := by
  have h : (x 0).val < 8192 := (x 0).isLt; have := (wL L).isLt; omega

/-- The index scratch holds the subcore's centre words. -/
def CenOK (cF : Buf (Elt F) (l0 d L)) : Prop :=
  ∀ x : S512.Idx, (cF : S512.Idx → BitVec 32) x = (m (centerLoc d) : S16384.Idx → BitVec 32) (ix1 ⟨512 * (wL L).val + (x 0).val, center_inb L x⟩)

/-- The context-rows scratch holds chunk `j`'s rows of the context rows. -/
def UjOK (U : Buf (Elt F) (urowsLoc d)) (j : Fin 8) (Uj : Buf (Elt F) (l2 d L)) : Prop :=
  ∀ y : S64x64.Idx, (Uj : S64x64.Idx → F .f32) y
    = (U : S16384x64.Idx → F .f32) (ix2 ⟨512 * (wL L).val + 64 * j.val + (y 0).val, urow_inb L j y⟩ ⟨(y 1).val, (y 1).isLt⟩)

variable [FloatOps F]

/-- The partial-products scratch is right below position `n`. -/
def okBelow (U : Buf (Elt F) (urowsLoc d)) (n : ℕ) (pf : Buf (Elt F) (l3 d L)) : Prop :=
  ∀ x : S8192.Idx, (x 0).val < n →
    (pf : S8192.Idx → F .f32) x = (pposF m d U : S262144.Idx → F .f32) (ix1 ⟨8192 * (wL L).val + (x 0).val, ppos_inb L x⟩)

/-- The subcore's slice of the kernel's result, as the partial-products scratch is to hold it. -/
def tgtV (U : Buf (Elt F) (urowsLoc d)) : Buf (Elt F) (l3 d L) := fun x : S8192.Idx =>
  (pposF m d U : S262144.Idx → F .f32) (ix1 ⟨8192 * (wL L).val + (x 0).val, ppos_inb L x⟩)

/-- Before trip `e` of chunk `j`'s element loop. -/
def elemAt (U : Buf (Elt F) (urowsLoc d)) (j : Fin 8) (cF : Buf (Elt F) (l0 d L)) (ev : Buf (Elt F) (lev d L)) (Uj : Buf (Elt F) (l2 d L))
    (e : ℕ) (_ : Unit) : sProp 𝕄 :=
  iprop(((s1).view.loc (thr d L) ↦{fullShare} gath d L cF ev j) ∗ ((s2).view.loc (thr d L) ↦{fullShare} Uj)
    ∗ ∃ pf : Buf (Elt F) (l3 d L), ⌜okBelow m d L U (16 * (64 * j.val + e)) pf⌝ ∗ ((s3).view.loc (thr d L) ↦{fullShare} pf))

/-- The kernel's result at lane `l` of element `64j + e` of the subcore's slice is that lane of what trip `e` stores. -/
theorem tgt_lane (U : Buf (Elt F) (urowsLoc d)) (j : Fin 8) (cF : Buf (Elt F) (l0 d L)) (Uj : Buf (Elt F) (l2 d L))
    (hcen : CenOK m d L cF) (huj : UjOK d L U j Uj) (e : Fin 64) (l : Fin 16) (hl : 16 * (64 * j.val + e.val) + l.val < 8192) :
    (tgtV m d L U : S8192.Idx → F .f32) (ix1 (⟨16 * (64 * j.val + e.val) + l.val, hl⟩ : Fin 8192))
      = laneVal d L (gath d L cF (m (evLoc d)) j) Uj e l := by
  have hw := (wL L).isLt; have hj := j.isLt; have he := e.isLt; have hll := l.isLt
  have hb : (⟨(8192 * (wL L).val + (16 * (64 * j.val + e.val) + l.val)) / 16, by omega⟩ : Fin 16384)
      = ⟨512 * (wL L).val + 64 * j.val + e.val, by omega⟩ := Fin.ext (by show (8192 * (wL L).val + (16 * (64 * j.val + e.val) + l.val)) / 16 = 512 * (wL L).val + 64 * j.val + e.val; omega)
  have hl' : (⟨(8192 * (wL L).val + (16 * (64 * j.val + e.val) + l.val)) % 16, Nat.mod_lt _ (by decide)⟩ : Fin 16) = l :=
    Fin.ext (by show (8192 * (wL L).val + (16 * (64 * j.val + e.val) + l.val)) % 16 = l.val; omega)
  show pposAt m d U ⟨(8192 * (wL L).val + (16 * (64 * j.val + e.val) + l.val)) / 16, _⟩ ⟨(8192 * (wL L).val + (16 * (64 * j.val + e.val) + l.val)) % 16, _⟩ = _
  rw [hb, hl']
  have hrow : rowAt d L cF j e = centerRow m d ⟨512 * (wL L).val + 64 * j.val + e.val, by omega⟩ := by
    apply Fin.ext
    show ((cF : S512.Idx → BitVec 32) (ix1 ⟨64 * j.val + e.val, _⟩)).toNat % 1000000
      = ((m (centerLoc d) : S16384.Idx → BitVec 32) (ix1 ⟨512 * (wL L).val + 64 * j.val + e.val, _⟩)).toNat % 1000000
    rw [hcen]
    have : (⟨512 * (wL L).val + ((ix1 (⟨64 * j.val + e.val, by omega⟩ : Fin 512) : S512.Idx) 0).val, center_inb L _⟩ : Fin 16384)
        = ⟨512 * (wL L).val + 64 * j.val + e.val, by omega⟩ := Fin.ext (by show 512 * (wL L).val + (64 * j.val + e.val) = 512 * (wL L).val + 64 * j.val + e.val; omega)
    rw [this]
  have hu : ∀ c : Fin 64, (Uj : S64x64.Idx → F .f32) (ix2 e c)
      = (U : S16384x64.Idx → F .f32) (ix2 (⟨512 * (wL L).val + 64 * j.val + e.val, by omega⟩ : Fin 16384) c) := fun c => huj (ix2 e c)
  have hg : ∀ c : Fin 64, (gath d L cF (m (evLoc d)) j : S64x64.Idx → F .f32) (ix2 e c)
      = (m (evLoc d) : S1000000x64.Idx → F .f32) (ix2 (centerRow m d ⟨512 * (wL L).val + 64 * j.val + e.val, by omega⟩) c) := fun c => by
    show (m (evLoc d) : S1000000x64.Idx → F .f32) (ix2 (rowAt d L cF j e) c) = _
    rw [hrow]
  unfold pposAt laneVal
  simp only [hu, hg]

end Cert.Proof.KTileVElemInv

end
-- ==== Proof.KTileVElem0.lean ====
/-
  Chunk 0's element trip: trip `e` multiplies the four 16-lane pieces of gathered row `e` with those of context row
  `e`, sums them left to right, and stores the 16 lanes at entries `[16(0 + e), +16)` of the partial-products
  scratch; the scratch, right below entry `16(0 + e)` before, is right below entry `16(0 + e + 1)` after.
-/
import proofs.«218857_g62938450756068_cont_9to1c4b_813_41_alg».proof.Proof.KTileVElemInv

set_option maxRecDepth 100000

noncomputable section

namespace Cert.Proof.KTileVElem0

open Cert.Kernel Cert.Kernel.Gen Cert.Proof.KernelBase Cert.Proof.KTileVDefs Cert.Proof.KTileVMem Cert.Proof.KTileVInv
open Cert.Proof.KTileVElemLem Cert.Proof.KTileVElemInv

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (d : Dev nD) (L : grid1.Coords)

theorem elem_step0 [∀ e, Nonempty (Elt F e)] (U : Buf (Elt F) (urowsLoc d)) (cF : Buf (Elt F) (l0 d L)) (Uj : Buf (Elt F) (l2 d L))
    (hcen : CenOK m d L cF) (huj : UjOK d L U 0 Uj) (e : Fin k1_t3_loop.trips) (acc : Unit) :
    elemAt m d L U 0 cF (m (evLoc d)) Uj e.val acc
      ⊢ wp frame (wpE (defs₀ (F := F)) 𝒱₀ (thr d L) none) Set.univ
          (k1_t3_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 e acc)
          (elemAt m d L U 0 cF (m (evLoc d)) Uj (e.val + 1)) := by
  have he : e.val < 64 := e.isLt
  unfold elemAt
  iintro ⟨H1, H2, %pf, %hpf, H3⟩
  sl_unfold [k1_t3_body]
  sl_exec
  sl_step
  isplitl [H1]; · iexact H1
  isplitl [H2]; · iexact H2
  iexists _
  isplitr
  rotate_left
  · iexact H3
  · ipureintro
    intro x hx
    refine write_step d L pf (tgtV m d L U) (k1_off41 e) _ (16 * e.val) rfl _ ?_ ?_ x ?_
    · intro y hy
      exact hpf y (by show (y 0).val < 16 * (64 * 0 + e.val); omega)
    · intro l hl
      refine (pay_lane d L (gath d L cF (m (evLoc d)) 0) Uj ⟨e.val, he⟩ (k1_off37 e) (k1_off38 e) (k1_off39 e) (k1_off40 e) _ _ _ _ rfl rfl rfl rfl _ _ l).trans ?_
      refine (tgt_lane m d L U 0 cF Uj hcen huj ⟨e.val, he⟩ l (by show 16 * (64 * 0 + e.val) + l.val < 8192; omega)).symm.trans ?_
      apply congrArg (tgtV m d L U : S8192.Idx → F .f32)
      apply congrArg ix1
      apply Fin.ext
      show 16 * (64 * 0 + e.val) + l.val = 16 * e.val + l.val
      omega
    · have hx' : (x 0).val < 16 * (64 * 0 + (e.val + 1)) := hx
      omega

end Cert.Proof.KTileVElem0

end
-- ==== Proof.KTileVElem1.lean ====
/-
  Chunk 1's element trip: trip `e` multiplies the four 16-lane pieces of gathered row `e` with those of context row
  `e`, sums them left to right, and stores the 16 lanes at entries `[16(64 + e), +16)` of the partial-products
  scratch; the scratch, right below entry `16(64 + e)` before, is right below entry `16(64 + e + 1)` after.
-/
import proofs.«218857_g62938450756068_cont_9to1c4b_813_41_alg».proof.Proof.KTileVElemInv

set_option maxRecDepth 100000

noncomputable section

namespace Cert.Proof.KTileVElem1

open Cert.Kernel Cert.Kernel.Gen Cert.Proof.KernelBase Cert.Proof.KTileVDefs Cert.Proof.KTileVMem Cert.Proof.KTileVInv
open Cert.Proof.KTileVElemLem Cert.Proof.KTileVElemInv

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (d : Dev nD) (L : grid1.Coords)

theorem elem_step1 [∀ e, Nonempty (Elt F e)] (U : Buf (Elt F) (urowsLoc d)) (cF : Buf (Elt F) (l0 d L)) (Uj : Buf (Elt F) (l2 d L))
    (hcen : CenOK m d L cF) (huj : UjOK d L U 1 Uj) (v2 c0 : BitVec 32) (e : Fin k1_t6_loop.trips) (acc : Unit) :
    elemAt m d L U 1 cF (m (evLoc d)) Uj e.val acc
      ⊢ wp frame (wpE (defs₀ (F := F)) 𝒱₀ (thr d L) none) Set.univ
          (k1_t6_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 v2 c0 e acc)
          (elemAt m d L U 1 cF (m (evLoc d)) Uj (e.val + 1)) := by
  have he : e.val < 64 := e.isLt
  unfold elemAt
  iintro ⟨H1, H2, %pf, %hpf, H3⟩
  sl_unfold [k1_t6_body]
  sl_exec
  sl_step
  isplitl [H1]; · iexact H1
  isplitl [H2]; · iexact H2
  iexists _
  isplitr
  rotate_left
  · iexact H3
  · ipureintro
    intro x hx
    refine write_step d L pf (tgtV m d L U) (k1_off80 e) _ (16 * e.val + 1024) rfl _ ?_ ?_ x ?_
    · intro y hy
      exact hpf y (by show (y 0).val < 16 * (64 * 1 + e.val); omega)
    · intro l hl
      refine (pay_lane d L (gath d L cF (m (evLoc d)) 1) Uj ⟨e.val, he⟩ (k1_off76 e) (k1_off77 e) (k1_off78 e) (k1_off79 e) _ _ _ _ rfl rfl rfl rfl _ _ l).trans ?_
      refine (tgt_lane m d L U 1 cF Uj hcen huj ⟨e.val, he⟩ l (by show 16 * (64 * 1 + e.val) + l.val < 8192; omega)).symm.trans ?_
      apply congrArg (tgtV m d L U : S8192.Idx → F .f32)
      apply congrArg ix1
      apply Fin.ext
      show 16 * (64 * 1 + e.val) + l.val = 16 * e.val + 1024 + l.val
      omega
    · have hx' : (x 0).val < 16 * (64 * 1 + (e.val + 1)) := hx
      omega

end Cert.Proof.KTileVElem1

end
-- ==== Proof.KTileVElem2.lean ====
/-
  Chunk 2's element trip: trip `e` multiplies the four 16-lane pieces of gathered row `e` with those of context row
  `e`, sums them left to right, and stores the 16 lanes at entries `[16(128 + e), +16)` of the partial-products
  scratch; the scratch, right below entry `16(128 + e)` before, is right below entry `16(128 + e + 1)` after.
-/
import proofs.«218857_g62938450756068_cont_9to1c4b_813_41_alg».proof.Proof.KTileVElemInv

set_option maxRecDepth 100000

noncomputable section

namespace Cert.Proof.KTileVElem2

open Cert.Kernel Cert.Kernel.Gen Cert.Proof.KernelBase Cert.Proof.KTileVDefs Cert.Proof.KTileVMem Cert.Proof.KTileVInv
open Cert.Proof.KTileVElemLem Cert.Proof.KTileVElemInv

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (d : Dev nD) (L : grid1.Coords)

theorem elem_step2 [∀ e, Nonempty (Elt F e)] (U : Buf (Elt F) (urowsLoc d)) (cF : Buf (Elt F) (l0 d L)) (Uj : Buf (Elt F) (l2 d L))
    (hcen : CenOK m d L cF) (huj : UjOK d L U 2 Uj) (v2 c0 : BitVec 32) (e : Fin k1_t9_loop.trips) (acc : Unit) :
    elemAt m d L U 2 cF (m (evLoc d)) Uj e.val acc
      ⊢ wp frame (wpE (defs₀ (F := F)) 𝒱₀ (thr d L) none) Set.univ
          (k1_t9_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 v2 c0 e acc)
          (elemAt m d L U 2 cF (m (evLoc d)) Uj (e.val + 1)) := by
  have he : e.val < 64 := e.isLt
  unfold elemAt
  iintro ⟨H1, H2, %pf, %hpf, H3⟩
  sl_unfold [k1_t9_body]
  sl_exec
  sl_step
  isplitl [H1]; · iexact H1
  isplitl [H2]; · iexact H2
  iexists _
  isplitr
  rotate_left
  · iexact H3
  · ipureintro
    intro x hx
    refine write_step d L pf (tgtV m d L U) (k1_off119 e) _ (16 * e.val + 2048) rfl _ ?_ ?_ x ?_
    · intro y hy
      exact hpf y (by show (y 0).val < 16 * (64 * 2 + e.val); omega)
    · intro l hl
      refine (pay_lane d L (gath d L cF (m (evLoc d)) 2) Uj ⟨e.val, he⟩ (k1_off115 e) (k1_off116 e) (k1_off117 e) (k1_off118 e) _ _ _ _ rfl rfl rfl rfl _ _ l).trans ?_
      refine (tgt_lane m d L U 2 cF Uj hcen huj ⟨e.val, he⟩ l (by show 16 * (64 * 2 + e.val) + l.val < 8192; omega)).symm.trans ?_
      apply congrArg (tgtV m d L U : S8192.Idx → F .f32)
      apply congrArg ix1
      apply Fin.ext
      show 16 * (64 * 2 + e.val) + l.val = 16 * e.val + 2048 + l.val
      omega
    · have hx' : (x 0).val < 16 * (64 * 2 + (e.val + 1)) := hx
      omega

end Cert.Proof.KTileVElem2

end
-- ==== Proof.KTileVElem3.lean ====
/-
  Chunk 3's element trip: trip `e` multiplies the four 16-lane pieces of gathered row `e` with those of context row
  `e`, sums them left to right, and stores the 16 lanes at entries `[16(192 + e), +16)` of the partial-products
  scratch; the scratch, right below entry `16(192 + e)` before, is right below entry `16(192 + e + 1)` after.
-/
import proofs.«218857_g62938450756068_cont_9to1c4b_813_41_alg».proof.Proof.KTileVElemInv

set_option maxRecDepth 100000

noncomputable section

namespace Cert.Proof.KTileVElem3

open Cert.Kernel Cert.Kernel.Gen Cert.Proof.KernelBase Cert.Proof.KTileVDefs Cert.Proof.KTileVMem Cert.Proof.KTileVInv
open Cert.Proof.KTileVElemLem Cert.Proof.KTileVElemInv

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (d : Dev nD) (L : grid1.Coords)

theorem elem_step3 [∀ e, Nonempty (Elt F e)] (U : Buf (Elt F) (urowsLoc d)) (cF : Buf (Elt F) (l0 d L)) (Uj : Buf (Elt F) (l2 d L))
    (hcen : CenOK m d L cF) (huj : UjOK d L U 3 Uj) (v2 : BitVec 32) (e : Fin k1_t12_loop.trips) (acc : Unit) :
    elemAt m d L U 3 cF (m (evLoc d)) Uj e.val acc
      ⊢ wp frame (wpE (defs₀ (F := F)) 𝒱₀ (thr d L) none) Set.univ
          (k1_t12_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 v2 e acc)
          (elemAt m d L U 3 cF (m (evLoc d)) Uj (e.val + 1)) := by
  have he : e.val < 64 := e.isLt
  unfold elemAt
  iintro ⟨H1, H2, %pf, %hpf, H3⟩
  sl_unfold [k1_t12_body]
  sl_exec
  sl_step
  isplitl [H1]; · iexact H1
  isplitl [H2]; · iexact H2
  iexists _
  isplitr
  rotate_left
  · iexact H3
  · ipureintro
    intro x hx
    refine write_step d L pf (tgtV m d L U) (k1_off158 e) _ (16 * e.val + 3072) rfl _ ?_ ?_ x ?_
    · intro y hy
      exact hpf y (by show (y 0).val < 16 * (64 * 3 + e.val); omega)
    · intro l hl
      refine (pay_lane d L (gath d L cF (m (evLoc d)) 3) Uj ⟨e.val, he⟩ (k1_off154 e) (k1_off155 e) (k1_off156 e) (k1_off157 e) _ _ _ _ rfl rfl rfl rfl _ _ l).trans ?_
      refine (tgt_lane m d L U 3 cF Uj hcen huj ⟨e.val, he⟩ l (by show 16 * (64 * 3 + e.val) + l.val < 8192; omega)).symm.trans ?_
      apply congrArg (tgtV m d L U : S8192.Idx → F .f32)
      apply congrArg ix1
      apply Fin.ext
      show 16 * (64 * 3 + e.val) + l.val = 16 * e.val + 3072 + l.val
      omega
    · have hx' : (x 0).val < 16 * (64 * 3 + (e.val + 1)) := hx
      omega

end Cert.Proof.KTileVElem3

end
-- ==== Proof.KTileVElem4.lean ====
/-
  Chunk 4's element trip: trip `e` multiplies the four 16-lane pieces of gathered row `e` with those of context row
  `e`, sums them left to right, and stores the 16 lanes at entries `[16(256 + e), +16)` of the partial-products
  scratch; the scratch, right below entry `16(256 + e)` before, is right below entry `16(256 + e + 1)` after.
-/
import proofs.«218857_g62938450756068_cont_9to1c4b_813_41_alg».proof.Proof.KTileVElemInv

set_option maxRecDepth 100000

noncomputable section

namespace Cert.Proof.KTileVElem4

open Cert.Kernel Cert.Kernel.Gen Cert.Proof.KernelBase Cert.Proof.KTileVDefs Cert.Proof.KTileVMem Cert.Proof.KTileVInv
open Cert.Proof.KTileVElemLem Cert.Proof.KTileVElemInv

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (d : Dev nD) (L : grid1.Coords)

theorem elem_step4 [∀ e, Nonempty (Elt F e)] (U : Buf (Elt F) (urowsLoc d)) (cF : Buf (Elt F) (l0 d L)) (Uj : Buf (Elt F) (l2 d L))
    (hcen : CenOK m d L cF) (huj : UjOK d L U 4 Uj) (v2 : BitVec 32) (e : Fin k1_t15_loop.trips) (acc : Unit) :
    elemAt m d L U 4 cF (m (evLoc d)) Uj e.val acc
      ⊢ wp frame (wpE (defs₀ (F := F)) 𝒱₀ (thr d L) none) Set.univ
          (k1_t15_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 v2 e acc)
          (elemAt m d L U 4 cF (m (evLoc d)) Uj (e.val + 1)) := by
  have he : e.val < 64 := e.isLt
  unfold elemAt
  iintro ⟨H1, H2, %pf, %hpf, H3⟩
  sl_unfold [k1_t15_body]
  sl_exec
  sl_step
  isplitl [H1]; · iexact H1
  isplitl [H2]; · iexact H2
  iexists _
  isplitr
  rotate_left
  · iexact H3
  · ipureintro
    intro x hx
    refine write_step d L pf (tgtV m d L U) (k1_off197 e) _ (16 * e.val + 4096) rfl _ ?_ ?_ x ?_
    · intro y hy
      exact hpf y (by show (y 0).val < 16 * (64 * 4 + e.val); omega)
    · intro l hl
      refine (pay_lane d L (gath d L cF (m (evLoc d)) 4) Uj ⟨e.val, he⟩ (k1_off193 e) (k1_off194 e) (k1_off195 e) (k1_off196 e) _ _ _ _ rfl rfl rfl rfl _ _ l).trans ?_
      refine (tgt_lane m d L U 4 cF Uj hcen huj ⟨e.val, he⟩ l (by show 16 * (64 * 4 + e.val) + l.val < 8192; omega)).symm.trans ?_
      apply congrArg (tgtV m d L U : S8192.Idx → F .f32)
      apply congrArg ix1
      apply Fin.ext
      show 16 * (64 * 4 + e.val) + l.val = 16 * e.val + 4096 + l.val
      omega
    · have hx' : (x 0).val < 16 * (64 * 4 + (e.val + 1)) := hx
      omega

end Cert.Proof.KTileVElem4

end
-- ==== Proof.KTileVElem5.lean ====
/-
  Chunk 5's element trip: trip `e` multiplies the four 16-lane pieces of gathered row `e` with those of context row
  `e`, sums them left to right, and stores the 16 lanes at entries `[16(320 + e), +16)` of the partial-products
  scratch; the scratch, right below entry `16(320 + e)` before, is right below entry `16(320 + e + 1)` after.
-/
import proofs.«218857_g62938450756068_cont_9to1c4b_813_41_alg».proof.Proof.KTileVElemInv

set_option maxRecDepth 100000

noncomputable section

namespace Cert.Proof.KTileVElem5

open Cert.Kernel Cert.Kernel.Gen Cert.Proof.KernelBase Cert.Proof.KTileVDefs Cert.Proof.KTileVMem Cert.Proof.KTileVInv
open Cert.Proof.KTileVElemLem Cert.Proof.KTileVElemInv

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (d : Dev nD) (L : grid1.Coords)

theorem elem_step5 [∀ e, Nonempty (Elt F e)] (U : Buf (Elt F) (urowsLoc d)) (cF : Buf (Elt F) (l0 d L)) (Uj : Buf (Elt F) (l2 d L))
    (hcen : CenOK m d L cF) (huj : UjOK d L U 5 Uj) (v2 : BitVec 32) (e : Fin k1_t18_loop.trips) (acc : Unit) :
    elemAt m d L U 5 cF (m (evLoc d)) Uj e.val acc
      ⊢ wp frame (wpE (defs₀ (F := F)) 𝒱₀ (thr d L) none) Set.univ
          (k1_t18_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 v2 e acc)
          (elemAt m d L U 5 cF (m (evLoc d)) Uj (e.val + 1)) := by
  have he : e.val < 64 := e.isLt
  unfold elemAt
  iintro ⟨H1, H2, %pf, %hpf, H3⟩
  sl_unfold [k1_t18_body]
  sl_exec
  sl_step
  isplitl [H1]; · iexact H1
  isplitl [H2]; · iexact H2
  iexists _
  isplitr
  rotate_left
  · iexact H3
  · ipureintro
    intro x hx
    refine write_step d L pf (tgtV m d L U) (k1_off236 e) _ (16 * e.val + 5120) rfl _ ?_ ?_ x ?_
    · intro y hy
      exact hpf y (by show (y 0).val < 16 * (64 * 5 + e.val); omega)
    · intro l hl
      refine (pay_lane d L (gath d L cF (m (evLoc d)) 5) Uj ⟨e.val, he⟩ (k1_off232 e) (k1_off233 e) (k1_off234 e) (k1_off235 e) _ _ _ _ rfl rfl rfl rfl _ _ l).trans ?_
      refine (tgt_lane m d L U 5 cF Uj hcen huj ⟨e.val, he⟩ l (by show 16 * (64 * 5 + e.val) + l.val < 8192; omega)).symm.trans ?_
      apply congrArg (tgtV m d L U : S8192.Idx → F .f32)
      apply congrArg ix1
      apply Fin.ext
      show 16 * (64 * 5 + e.val) + l.val = 16 * e.val + 5120 + l.val
      omega
    · have hx' : (x 0).val < 16 * (64 * 5 + (e.val + 1)) := hx
      omega

end Cert.Proof.KTileVElem5

end
-- ==== Proof.KTileVElem6.lean ====
/-
  Chunk 6's element trip: trip `e` multiplies the four 16-lane pieces of gathered row `e` with those of context row
  `e`, sums them left to right, and stores the 16 lanes at entries `[16(384 + e), +16)` of the partial-products
  scratch; the scratch, right below entry `16(384 + e)` before, is right below entry `16(384 + e + 1)` after.
-/
import proofs.«218857_g62938450756068_cont_9to1c4b_813_41_alg».proof.Proof.KTileVElemInv

set_option maxRecDepth 100000

noncomputable section

namespace Cert.Proof.KTileVElem6

open Cert.Kernel Cert.Kernel.Gen Cert.Proof.KernelBase Cert.Proof.KTileVDefs Cert.Proof.KTileVMem Cert.Proof.KTileVInv
open Cert.Proof.KTileVElemLem Cert.Proof.KTileVElemInv

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (d : Dev nD) (L : grid1.Coords)

theorem elem_step6 [∀ e, Nonempty (Elt F e)] (U : Buf (Elt F) (urowsLoc d)) (cF : Buf (Elt F) (l0 d L)) (Uj : Buf (Elt F) (l2 d L))
    (hcen : CenOK m d L cF) (huj : UjOK d L U 6 Uj) (e : Fin k1_t21_loop.trips) (acc : Unit) :
    elemAt m d L U 6 cF (m (evLoc d)) Uj e.val acc
      ⊢ wp frame (wpE (defs₀ (F := F)) 𝒱₀ (thr d L) none) Set.univ
          (k1_t21_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 e acc)
          (elemAt m d L U 6 cF (m (evLoc d)) Uj (e.val + 1)) := by
  have he : e.val < 64 := e.isLt
  unfold elemAt
  iintro ⟨H1, H2, %pf, %hpf, H3⟩
  sl_unfold [k1_t21_body]
  sl_exec
  sl_step
  isplitl [H1]; · iexact H1
  isplitl [H2]; · iexact H2
  iexists _
  isplitr
  rotate_left
  · iexact H3
  · ipureintro
    intro x hx
    refine write_step d L pf (tgtV m d L U) (k1_off275 e) _ (16 * e.val + 6144) rfl _ ?_ ?_ x ?_
    · intro y hy
      exact hpf y (by show (y 0).val < 16 * (64 * 6 + e.val); omega)
    · intro l hl
      refine (pay_lane d L (gath d L cF (m (evLoc d)) 6) Uj ⟨e.val, he⟩ (k1_off271 e) (k1_off272 e) (k1_off273 e) (k1_off274 e) _ _ _ _ rfl rfl rfl rfl _ _ l).trans ?_
      refine (tgt_lane m d L U 6 cF Uj hcen huj ⟨e.val, he⟩ l (by show 16 * (64 * 6 + e.val) + l.val < 8192; omega)).symm.trans ?_
      apply congrArg (tgtV m d L U : S8192.Idx → F .f32)
      apply congrArg ix1
      apply Fin.ext
      show 16 * (64 * 6 + e.val) + l.val = 16 * e.val + 6144 + l.val
      omega
    · have hx' : (x 0).val < 16 * (64 * 6 + (e.val + 1)) := hx
      omega

end Cert.Proof.KTileVElem6

end
-- ==== Proof.KTileVElem7.lean ====
/-
  Chunk 7's element trip: trip `e` multiplies the four 16-lane pieces of gathered row `e` with those of context row
  `e`, sums them left to right, and stores the 16 lanes at entries `[16(448 + e), +16)` of the partial-products
  scratch; the scratch, right below entry `16(448 + e)` before, is right below entry `16(448 + e + 1)` after.
-/
import proofs.«218857_g62938450756068_cont_9to1c4b_813_41_alg».proof.Proof.KTileVElemInv

set_option maxRecDepth 100000

noncomputable section

namespace Cert.Proof.KTileVElem7

open Cert.Kernel Cert.Kernel.Gen Cert.Proof.KernelBase Cert.Proof.KTileVDefs Cert.Proof.KTileVMem Cert.Proof.KTileVInv
open Cert.Proof.KTileVElemLem Cert.Proof.KTileVElemInv

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (d : Dev nD) (L : grid1.Coords)

theorem elem_step7 [∀ e, Nonempty (Elt F e)] (U : Buf (Elt F) (urowsLoc d)) (cF : Buf (Elt F) (l0 d L)) (Uj : Buf (Elt F) (l2 d L))
    (hcen : CenOK m d L cF) (huj : UjOK d L U 7 Uj) (e : Fin k1_t24_loop.trips) (acc : Unit) :
    elemAt m d L U 7 cF (m (evLoc d)) Uj e.val acc
      ⊢ wp frame (wpE (defs₀ (F := F)) 𝒱₀ (thr d L) none) Set.univ
          (k1_t24_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 e acc)
          (elemAt m d L U 7 cF (m (evLoc d)) Uj (e.val + 1)) := by
  have he : e.val < 64 := e.isLt
  unfold elemAt
  iintro ⟨H1, H2, %pf, %hpf, H3⟩
  sl_unfold [k1_t24_body]
  sl_exec
  sl_step
  isplitl [H1]; · iexact H1
  isplitl [H2]; · iexact H2
  iexists _
  isplitr
  rotate_left
  · iexact H3
  · ipureintro
    intro x hx
    refine write_step d L pf (tgtV m d L U) (k1_off314 e) _ (16 * e.val + 7168) rfl _ ?_ ?_ x ?_
    · intro y hy
      exact hpf y (by show (y 0).val < 16 * (64 * 7 + e.val); omega)
    · intro l hl
      refine (pay_lane d L (gath d L cF (m (evLoc d)) 7) Uj ⟨e.val, he⟩ (k1_off310 e) (k1_off311 e) (k1_off312 e) (k1_off313 e) _ _ _ _ rfl rfl rfl rfl _ _ l).trans ?_
      refine (tgt_lane m d L U 7 cF Uj hcen huj ⟨e.val, he⟩ l (by show 16 * (64 * 7 + e.val) + l.val < 8192; omega)).symm.trans ?_
      apply congrArg (tgtV m d L U : S8192.Idx → F .f32)
      apply congrArg ix1
      apply Fin.ext
      show 16 * (64 * 7 + e.val) + l.val = 16 * e.val + 7168 + l.val
      omega
    · have hx' : (x 0).val < 16 * (64 * 7 + (e.val + 1)) := hx
      omega

end Cert.Proof.KTileVElem7

end
-- ==== Proof.KTileVIssueLem.lean ====
/-
  One row copy of a chunk's gather, as the batch sees it. The copy lands the table's row named by an index word
  in a row of the gathered-rows scratch; what it delivers — the scratch row at the landed contents beside the read
  share of the source row — is the batch's stated delivery for that transfer: on the scratch row's elements the
  landed buffer is the chunk's gathered array, because the row read through the source's view is the table's row
  at the word, and the word is below the table's extent.
-/
import proofs.«218857_g62938450756068_cont_9to1c4b_813_41_alg».proof.Proof.KTileVInv
import proofs.«218857_g62938450756068_cont_9to1c4b_813_41_alg».proof.Proof.TileVRow

noncomputable section

namespace Cert.Proof.KTileVIssueLem

open Cert.Kernel Cert.Kernel.Gen Cert.Proof.KernelBase Cert.Proof.KTileVDefs Cert.Proof.KTileVMem Cert.Proof.KTileVInv

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-- A row of the gathered-rows scratch at given offsets, as the body spells a row copy's destination. -/
def rowM (off : Fin 2 → ℕ) (h : ∀ a, off a + S1x64.size a ≤ S64x64.size a) : Memref sig .scVector .vmem S64 .f32 :=
  ((s1).slice (Rect.unit (s := S64x64) off S1x64.size h) (fun _ => rfl)).squeeze S64 Shapes1.Facts₀.squeezes_S1x64_S64

theorem set_rowM (t : Fin 64) (off : Fin 2 → ℕ) (h : ∀ a, off a + S1x64.size a ≤ S64x64.size a) (e : off = ![t.val, 0]) :
    (rowM off h).view.set = (vRowRect t).set := by
  subst e
  unfold rowM
  show (((View.whole (cc1_scratch1 : Ref sig .scVector)).slice _).reshape S64 _).set = _
  rw [View.set_reshape, View.set_slice_whole]

/-- Entry `x` of the row is the scratch's `(t, x)`. -/
theorem emb_rowM (t : Fin 64) (h : ∀ a, (![t.val, 0] : Fin 2 → ℕ) a + S1x64.size a ≤ S64x64.size a) (x : S64.Idx) :
    (rowM ![t.val, 0] h).view.emb x = (ix2 t (⟨(x 0).val, (x 0).isLt⟩ : Fin 64) : S64x64.Idx) := by
  exact TileVRect.emb_row64 (n := 64) t.val h _ x t.isLt

/-- Entry `x` of table row `v` is the table's `(v, x)`. -/
theorem emb_evRow (v : BitVec 32) (hv : ∀ a, (![v.toNat, 0] : Fin 2 → ℕ) a + S1x64.size a ≤ S1000000x64.size a) (hlt : v.toNat < 1000000)
    (x : S64.Idx) :
    (evRow v hv).view.emb x = (ix2 (⟨v.toNat, hlt⟩ : Fin 1000000) (⟨(x 0).val, (x 0).isLt⟩ : Fin 64) : S1000000x64.Idx) := by
  exact TileVRect.emb_row64 (n := 1000000) v.toNat hv _ x hlt

theorem set_evRow (v : BitVec 32) (hv : ∀ a, (![v.toNat, 0] : Fin 2 → ℕ) a + S1x64.size a ≤ S1000000x64.size a) :
    (evRow v hv).view.set = (evRowRect v hv).set := by
  unfold evRow
  show (((View.whole (main_arg3_scv : Ref sig .scVector)).slice _).reshape S64 _).set = _
  rw [View.set_reshape, View.set_slice_whole]

variable (d : Dev nD) (L : grid1.Coords)
variable (cF : Buf (Elt F) (l0 d L)) (hcF : ∀ x : S512.Idx, ((cF : S512.Idx → BitVec 32) x).toNat < 1000000)
variable (ev : Buf (Elt F) (lev d L)) (q : PosShare TreeShare)

/-- THE DELIVERY of transfer `t` of chunk `j`'s batch, from what the copy leaves: the scratch row (spelt at the body's
    offsets `off`, equal to `![t, 0]` through their closed form) holding one whole-row write of what the source row
    reads, and the source row (at the body's index word `v`, which is element `t`'s word) at read token `n = t`. -/
theorem deliver (j : Fin 8) (t : Fin 64) (off : Fin 2 → ℕ) (hoff : ∀ a, off a + S1x64.size a ≤ S64x64.size a)
    [c : ClosedOff off] (eform : c.form = ![t.val, 0])
    (v : BitVec 32) (hv : ∀ a, (![v.toNat, 0] : Fin 2 → ℕ) a + S1x64.size a ≤ S1000000x64.size a) (ew : v = wd d L cF j t)
    (fd : Buf (Elt F) ((rowM off hoff).view.loc (thr d L))) (X : (Rect.whole S64).shape.Idx → F .f32)
    (hX : X = ReadAs.same.apply ((evRow v hv).view.read (Elt F) ev)) (n : ℕ) (hn : n = t.val) :
    iprop(((rowM off hoff).view.loc (thr d L) ↦[(rowM off hoff).view.set]{fullShare} (rowM off hoff).view.writes (Elt F) fd [⟨Rect.whole S64, X⟩])
        ∗ ((evW).view.loc (thr d L) ↦[(evRow v hv).view.set]{Transfers.shareTokN q n} ev))
      ⊢ Dv d L cF hcF ev q j t := by
  have eoff : off = ![t.val, 0] := c.eq.trans eform
  subst eoff; subst ew; subst hn; subst hX
  have hlt : (wd d L cF j t).toNat < 1000000 := hcF _
  -- the scratch row read through its view is the source row read through its own
  have hread : ∀ x : S64.Idx, (rowM ![t.val, 0] hoff).view.read (Elt F) (gath d L cF ev j) x
      = ReadAs.same.apply ((evRow (wd d L cF j t) hv).view.read (Elt F) ev) x := fun x => by
    have e1 : (rowM ![t.val, 0] hoff).view.read (Elt F) (gath d L cF ev j) x
        = (gath d L cF ev j : S64x64.Idx → F .f32) (ix2 t (⟨(x 0).val, (x 0).isLt⟩ : Fin 64)) :=
      (cast_eq _ _).trans (congrArg (gath d L cF ev j : S64x64.Idx → F .f32) (emb_rowM t hoff x))
    have e2 : (evRow (wd d L cF j t) hv).view.read (Elt F) ev x
        = (ev : S1000000x64.Idx → F .f32) (ix2 (⟨(wd d L cF j t).toNat, hlt⟩ : Fin 1000000) (⟨(x 0).val, (x 0).isLt⟩ : Fin 64)) :=
      (cast_eq _ _).trans (congrArg (ev : S1000000x64.Idx → F .f32) (emb_evRow _ hv hlt x))
    have e3 : rowAt d L cF j t = (⟨(wd d L cF j t).toNat, hlt⟩ : Fin 1000000) := Fin.ext (Nat.mod_eq_of_lt hlt)
    refine e1.trans (Eq.trans ?_ e2.symm)
    show (ev : S1000000x64.Idx → F .f32) (ix2 (rowAt d L cF j t) (⟨(x 0).val, (x 0).isLt⟩ : Fin 64)) = _
    rw [e3]
  have hval := TileVLand.writes_whole_eq_on (rowM ![t.val, 0] hoff).view fd (gath d L cF ev j) _ hread
  have hEq1 : ((rowM ![t.val, 0] hoff).view.loc (thr d L) ↦[(rowM ![t.val, 0] hoff).view.set]{fullShare}
        (rowM ![t.val, 0] hoff).view.writes (Elt F) fd [⟨Rect.whole S64, ReadAs.same.apply ((evRow (wd d L cF j t) hv).view.read (Elt F) ev)⟩] : sProp 𝕄)
      = (l1 d L ↦[(vRowRect t).set]{fullShare} gath d L cF ev j) :=
    (pointsTo_congr hval).trans (congrArg (fun S => (l1 d L ↦[S]{fullShare} gath d L cF ev j : sProp 𝕄)) (set_rowM t _ hoff rfl))
  have hEq2 : ((evW).view.loc (thr d L) ↦[(evRow (wd d L cF j t) hv).view.set]{Transfers.shareTokN q t.val} ev : sProp 𝕄)
      = (lev d L ↦[(evRowRect (wd d L cF j t) (wd_inb d L cF hcF j t)).set]{Transfers.shareTokN q t.val} ev) :=
    congrArg (fun S => (lev d L ↦[S]{Transfers.shareTokN q t.val} ev : sProp 𝕄)) (set_evRow _ hv)
  unfold Dv
  exact BIClass.sep_mono (Entails.of_eq hEq1) (Entails.of_eq hEq2)

end Cert.Proof.KTileVIssueLem

end
-- ==== Proof.KTileVWord.lean ====
import proofs.«218857_g62938450756068_cont_9to1c4b_813_41_alg».proof.Proof.KTileVIssueLem
import proofs.«218857_g62938450756068_cont_9to1c4b_813_41_alg».proof.Proof.TileVLaneI

noncomputable section

namespace Cert.Proof.KTileVWord

open Cert.Kernel Cert.Kernel.Gen Cert.Proof.KernelBase Cert.Proof.KTileVDefs Cert.Proof.KTileVMem Cert.Proof.KTileVInv Cert.Proof.KTileVIssueLem

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

variable (d : Dev nD) (L : grid1.Coords)
variable (cF : Buf (Elt F) (l0 d L)) (hcF : ∀ x : S512.Idx, ((cF : S512.Idx → BitVec 32) x).toNat < 1000000)
variable (ev : Buf (Elt F) (lev d L)) (q : PosShare TreeShare)

/-- Entry `o` of the 16 index words loaded at offset `b` of the index scratch is the scratch's entry `b + o`. -/
theorem loaded_entry (b o : ℕ) (hoff : ∀ a, (![b] : Fin 1 → ℕ) a + S16.size a ≤ S512.size a) (ho : o < 16) (hbo : b + o < 512) :
    View.readAt (Elt F) (s0).view (Rect.unit (s := S512) ![b] S16.size hoff).toLoadRect cF (ix1 (⟨o, ho⟩ : Fin 16))
      = (cF : S512.Idx → BitVec 32) (ix1 (⟨b + o, hbo⟩ : Fin 512)) := by
  refine (View.read_apply (v := (s0).view) (Val := Elt F) cF ((Rect.unit (s := S512) ![b] S16.size hoff).toLoadRect.idx (ix1 (⟨o, ho⟩ : Fin 16)))).trans ?_
  refine (cast_eq _ _).trans (congrArg (cF : S512.Idx → BitVec 32) ?_)
  funext a; apply Fin.ext
  match a with
  | ⟨0, _⟩ => show b + 1 * o = b + o; omega

/-- The word a trip's lane reads: lane `o` of the 16 index words loaded at offset `base = 64j + 16g` of the index
    scratch is the word of element `16g + o` of chunk `j`. -/
theorem word_eq (j : Fin 8) (gv : ℕ) (off : Fin 1 → ℕ) (hoff : ∀ a, off a + S16.size a ≤ S512.size a)
    [c : ClosedOff off] (base : ℕ) (eform : c.form = ![base]) (hb : base = 64 * j.val + 16 * gv)
    (o : ℕ) (hs : S16.Slices ![o] S1) (hp : ∀ a, (![0] : Fin 1 → ℕ) a < S1.size a) (hc : S16.ShapeCasts S16)
    (t : Fin 64) (ht : t.val = 16 * gv + o) :
    extractAt ![0] (extractStridedSlice S1 ![o] (shapeCast S16 (View.readAt (Elt F) (s0).view (Rect.unit (s := S512) off S16.size hoff).toLoadRect cF) hc) hs) hp
      = wd d L cF j t := by
  have eoff : off = ![base] := c.eq.trans eform
  subst eoff
  have ho : o < 16 := by
    have h := hs.2 0
    have h' : o + 1 ≤ 16 := h
    omega
  refine (TileVLaneI.lane_entry _ o hc hs hp ho).trans ?_
  have hbo : base + o < 512 := by have := t.isLt; have := j.isLt; omega
  refine (loaded_entry d L cF base o hoff ho hbo).trans ?_
  unfold wd
  apply congrArg (cF : S512.Idx → BitVec 32)
  apply congrArg ix1
  apply Fin.ext
  show base + o = 64 * j.val + t.val
  omega

/-- A row of the scratch owned, respelt at the body's offsets. -/
theorem rowOwn_to (t : Fin 64) (off : Fin 2 → ℕ) (h : ∀ a, off a + S1x64.size a ≤ S64x64.size a) [c : ClosedOff off]
    (eform : c.form = ![t.val, 0]) :
    rowOwn d L t ⊢ (iprop(∃ f, (rowM off h).view.loc (thr d L) ↦[(rowM off h).view.set]{fullShare} f) : sProp 𝕄) := by
  have eoff : off = ![t.val, 0] := c.eq.trans eform
  unfold rowOwn
  iintro ⟨%f, H⟩
  iexists f
  iapply (Entails.of_eq (congrArg (fun S => (l1 d L ↦[S]{fullShare} f : sProp 𝕄)) ((set_vRow t).trans (set_rowM t off h eoff).symm)))
  iexact H

/-- What a token keeps while its row is lent, respelt from the body's index word. -/
theorem rest_to (j : Fin 8) (t : Fin 64) (v : BitVec 32) (hv : ∀ a, (![v.toNat, 0] : Fin 2 → ℕ) a + S1x64.size a ≤ S1000000x64.size a)
    (ew : v = wd d L cF j t) (n : ℕ) (hn : n = t.val) :
    ((evW).view.loc (thr d L) ↦[(evW).view.set \ (evRow v hv).view.set]{Transfers.shareTokN q n} ev : sProp 𝕄)
      ⊢ tokRest d L cF hcF ev q j t := by
  subst ew; subst hn
  exact .rfl

end Cert.Proof.KTileVWord
end
-- ==== Proof.KTileVIssue0.lean ====
/-
  Chunk 0's issue trip. Trip `g` of the chunk's issue loop loads the 16 centre words of elements `16g … 16g + 15`
  of the chunk and starts, for each, the copy of the table row it names into row `16g + l` of the gathered-rows
  scratch, all on the one gather semaphore: transfers `16g … 16g + 15` of the chunk's batch. Each word is below
  the table's extent (the index scratch holds the subcore's centre words); each copy's delivery is the batch's.
-/
import proofs.«218857_g62938450756068_cont_9to1c4b_813_41_alg».proof.Proof.KTileVWord

set_option maxRecDepth 100000

noncomputable section

namespace Cert.Proof.KTileVIssue0

open Cert.Kernel Cert.Kernel.Gen Cert.Proof.KernelBase Cert.Proof.KTileVDefs Cert.Proof.KTileVMem Cert.Proof.KTileVInv
open Cert.Proof.KTileVIssueLem Cert.Proof.KTileVWord

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (L : grid1.Coords)
variable (cF : Buf (Elt F) (l0 d L)) (hcF : ∀ x : S512.Idx, ((cF : S512.Idx → BitVec 32) x).toNat < 1000000)
variable (ev : Buf (Elt F) (lev d L)) (q : PosShare TreeShare)

set_option maxHeartbeats 0 in
theorem issue_step0 [∀ e, Nonempty (Elt F e)] (g : Fin k1_t1_loop.trips) (acc : Unit) :
    issueAt d L cF hcF ev q 0 g.val acc
      ⊢ wp frame (wpE (defs₀ (F := F)) 𝒱₀ (thr d L) none) Set.univ
          (k1_t1_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 g acc)
          (issueAt d L cF hcF ev q 0 (g.val + 1)) := by
  have hg : g.val < 4 := g.isLt
  have hb0 : 16 * g.val = 64 * (0 : Fin 8).val + 16 * g.val := by show 16 * g.val = 64 * 0 + 16 * g.val; omega
  unfold issueAt
  rw [show 16 * (g.val + 1) = 16 * g.val + 1 + 1 + 1 + 1 + 1 + 1 + 1 + 1 + 1 + 1 + 1 + 1 + 1 + 1 + 1 + 1 from by omega]
  rw [Ring.bigSep_rangeSet_head (Φ := rowOwn d L) (lo := 16 * g.val) (by omega) (by omega),
    Ring.bigSep_rangeSet_head (Φ := rowOwn d L) (lo := 16 * g.val + 1) (by omega) (by omega),
    Ring.bigSep_rangeSet_head (Φ := rowOwn d L) (lo := 16 * g.val + 1 + 1) (by omega) (by omega),
    Ring.bigSep_rangeSet_head (Φ := rowOwn d L) (lo := 16 * g.val + 1 + 1 + 1) (by omega) (by omega),
    Ring.bigSep_rangeSet_head (Φ := rowOwn d L) (lo := 16 * g.val + 1 + 1 + 1 + 1) (by omega) (by omega),
    Ring.bigSep_rangeSet_head (Φ := rowOwn d L) (lo := 16 * g.val + 1 + 1 + 1 + 1 + 1) (by omega) (by omega),
    Ring.bigSep_rangeSet_head (Φ := rowOwn d L) (lo := 16 * g.val + 1 + 1 + 1 + 1 + 1 + 1) (by omega) (by omega),
    Ring.bigSep_rangeSet_head (Φ := rowOwn d L) (lo := 16 * g.val + 1 + 1 + 1 + 1 + 1 + 1 + 1) (by omega) (by omega),
    Ring.bigSep_rangeSet_head (Φ := rowOwn d L) (lo := 16 * g.val + 1 + 1 + 1 + 1 + 1 + 1 + 1 + 1) (by omega) (by omega),
    Ring.bigSep_rangeSet_head (Φ := rowOwn d L) (lo := 16 * g.val + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1 + 1) (by omega) (by omega),
    Ring.bigSep_rangeSet_head (Φ := tok d L ev q) (lo := 16 * g.val) (by omega) (by omega),
    Ring.bigSep_rangeSet_head (Φ := tok d L ev q) (lo := 16 * g.val + 1) (by omega) (by omega),
    Ring.bigSep_rangeSet_head (Φ := tok d L ev q) (lo := 16 * g.val + 1 + 1) (by omega) (by omega),
    Ring.bigSep_rangeSet_head (Φ := tok d L ev q) (lo := 16 * g.val + 1 + 1 + 1) (by omega) (by omega),
    Ring.bigSep_rangeSet_head (Φ := tok d L ev q) (lo := 16 * g.val + 1 + 1 + 1 + 1) (by omega) (by omega),
    Ring.bigSep_rangeSet_head (Φ := tok d L ev q) (lo := 16 * g.val + 1 + 1 + 1 + 1 + 1) (by omega) (by omega),
    Ring.bigSep_rangeSet_head (Φ := tok d L ev q) (lo := 16 * g.val + 1 + 1 + 1 + 1 + 1 + 1) (by omega) (by omega),
    Ring.bigSep_rangeSet_head (Φ := tok d L ev q) (lo := 16 * g.val + 1 + 1 + 1 + 1 + 1 + 1 + 1) (by omega) (by omega),
    Ring.bigSep_rangeSet_head (Φ := tok d L ev q) (lo := 16 * g.val + 1 + 1 + 1 + 1 + 1 + 1 + 1 + 1) (by omega) (by omega),
    Ring.bigSep_rangeSet_head (Φ := tok d L ev q) (lo := 16 * g.val + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1 + 1) (by omega) (by omega)]
  rw [Ring.bigSep_rangeSet_split (Φ := tokRest d L cF hcF ev q 0) (a := 0) (b := 16 * g.val) (d := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 0) (lo := 16 * g.val + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_empty (Φ := tokRest d L cF hcF ev q 0) (lo := 16 * g.val + 1 + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (le_refl _)]
  iintro ⟨HB, Hc, ⟨HR0, HR1, HR2, HR3, HR4, HR5, HR6, HR7, HR8, HR9, HR10, HR11, HR12, HR13, HR14, HR15, HRs⟩, ⟨HT0, HT1, HT2, HT3, HT4, HT5, HT6, HT7, HT8, HT9, HT10, HT11, HT12, HT13, HT14, HT15, HTs⟩, Hrest⟩
  ihave HR0' := (rowOwn_to d L ⟨16 * g.val, _⟩ (k1_off6 g 0#32) (K1.Facts₀.k1_off6_inb g 0) rfl) $$ HR0
  icases HR0' with ⟨%f0, HR0⟩
  ihave HR1' := (rowOwn_to d L ⟨16 * g.val + 1, _⟩ (k1_off8 g 1#32) (K1.Facts₀.k1_off8_inb g 0) rfl) $$ HR1
  icases HR1' with ⟨%f1, HR1⟩
  ihave HR2' := (rowOwn_to d L ⟨16 * g.val + 1 + 1, _⟩ (k1_off10 g 2#32) (K1.Facts₀.k1_off10_inb g 0) rfl) $$ HR2
  icases HR2' with ⟨%f2, HR2⟩
  ihave HR3' := (rowOwn_to d L ⟨16 * g.val + 1 + 1 + 1, _⟩ (k1_off12 g 3#32) (K1.Facts₀.k1_off12_inb g 0) rfl) $$ HR3
  icases HR3' with ⟨%f3, HR3⟩
  ihave HR4' := (rowOwn_to d L ⟨16 * g.val + 1 + 1 + 1 + 1, _⟩ (k1_off14 g 4#32) (K1.Facts₀.k1_off14_inb g 0) rfl) $$ HR4
  icases HR4' with ⟨%f4, HR4⟩
  ihave HR5' := (rowOwn_to d L ⟨16 * g.val + 1 + 1 + 1 + 1 + 1, _⟩ (k1_off16 g 5#32) (K1.Facts₀.k1_off16_inb g 0) rfl) $$ HR5
  icases HR5' with ⟨%f5, HR5⟩
  ihave HR6' := (rowOwn_to d L ⟨16 * g.val + 1 + 1 + 1 + 1 + 1 + 1, _⟩ (k1_off18 g 6#32) (K1.Facts₀.k1_off18_inb g 0) rfl) $$ HR6
  icases HR6' with ⟨%f6, HR6⟩
  ihave HR7' := (rowOwn_to d L ⟨16 * g.val + 1 + 1 + 1 + 1 + 1 + 1 + 1, _⟩ (k1_off20 g 7#32) (K1.Facts₀.k1_off20_inb g 0) rfl) $$ HR7
  icases HR7' with ⟨%f7, HR7⟩
  ihave HR8' := (rowOwn_to d L ⟨16 * g.val + 1 + 1 + 1 + 1 + 1 + 1 + 1 + 1, _⟩ (k1_off22 g 8#32) (K1.Facts₀.k1_off22_inb g 0) rfl) $$ HR8
  icases HR8' with ⟨%f8, HR8⟩
  ihave HR9' := (rowOwn_to d L ⟨16 * g.val + 1 + 1 + 1 + 1 + 1 + 1 + 1 + 1 + 1, _⟩ (k1_off24 g 9#32) (K1.Facts₀.k1_off24_inb g 0) rfl) $$ HR9
  icases HR9' with ⟨%f9, HR9⟩
  ihave HR10' := (rowOwn_to d L ⟨16 * g.val + 1 + 1 + 1 + 1 + 1 + 1 + 1 + 1 + 1 + 1, _⟩ (k1_off26 g 10#32) (K1.Facts₀.k1_off26_inb g 0) rfl) $$ HR10
  icases HR10' with ⟨%f10, HR10⟩
  ihave HR11' := (rowOwn_to d L ⟨16 * g.val + 1 + 1 + 1 + 1 + 1 + 1 + 1 + 1 + 1 + 1 + 1, _⟩ (k1_off28 g 11#32) (K1.Facts₀.k1_off28_inb g 0) rfl) $$ HR11
  icases HR11' with ⟨%f11, HR11⟩
  ihave HR12' := (rowOwn_to d L ⟨16 * g.val + 1 + 1 + 1 + 1 + 1 + 1 + 1 + 1 + 1 + 1 + 1 + 1, _⟩ (k1_off30 g 12#32) (K1.Facts₀.k1_off30_inb g 0) rfl) $$ HR12
  icases HR12' with ⟨%f12, HR12⟩
  ihave HR13' := (rowOwn_to d L ⟨16 * g.val + 1 + 1 + 1 + 1 + 1 + 1 + 1 + 1 + 1 + 1 + 1 + 1 + 1, _⟩ (k1_off32 g 13#32) (K1.Facts₀.k1_off32_inb g 0) rfl) $$ HR13
  icases HR13' with ⟨%f13, HR13⟩
  ihave HR14' := (rowOwn_to d L ⟨16 * g.val + 1 + 1 + 1 + 1 + 1 + 1 + 1 + 1 + 1 + 1 + 1 + 1 + 1 + 1, _⟩ (k1_off34 g 14#32) (K1.Facts₀.k1_off34_inb g 0) rfl) $$ HR14
  icases HR14' with ⟨%f14, HR14⟩
  ihave HR15' := (rowOwn_to d L ⟨16 * g.val + 1 + 1 + 1 + 1 + 1 + 1 + 1 + 1 + 1 + 1 + 1 + 1 + 1 + 1 + 1, _⟩ (k1_off36 g) (K1.Facts₀.k1_off36_inb g) rfl) $$ HR15
  icases HR15' with ⟨%f15, HR15⟩
  sl_unfold [k1_t1_body]
  sl_exec (disch := first
    | omega
    | exact TileVRect.row_inb _ (hcF _)
    | exact deliver d L cF hcF ev q 0 _ _ _ rfl _ _ (word_eq d L cF 0 g.val _ _ (16 * g.val) rfl hb0 _ (by decide) (by decide) _ _ rfl) _ _ rfl _ rfl)
  sl_step
  isplitl [HB]; · iexact HB
  isplitl [Hc]; · iexact Hc
  isplitl [HRs]; · iexact HRs
  isplitl [HTs]; · iexact HTs
  isplitl [Hrest]; · iexact Hrest
  isplitl [HT0]
  · iapply (rest_to d L cF hcF ev q 0 ⟨16 * g.val, _⟩ _ _ (word_eq d L cF 0 g.val (k1_off3 g) (K1.Facts₀.k1_off3_inb g) (16 * g.val) rfl hb0 0 Shapes1.Facts₀.slices_S16_o0_S1 Shapes1.Facts₀.inpos_S1_p0 Shapes1.Facts₀.shapeCasts_S16_S16 _ rfl) _ rfl); iexact HT0
  isplitl [HT1]
  · iapply (rest_to d L cF hcF ev q 0 ⟨16 * g.val + 1, _⟩ _ _ (word_eq d L cF 0 g.val (k1_off3 g) (K1.Facts₀.k1_off3_inb g) (16 * g.val) rfl hb0 1 Shapes1.Facts₀.slices_S16_o1_S1 Shapes1.Facts₀.inpos_S1_p0 Shapes1.Facts₀.shapeCasts_S16_S16 _ rfl) _ rfl); iexact HT1
  isplitl [HT2]
  · iapply (rest_to d L cF hcF ev q 0 ⟨16 * g.val + 1 + 1, _⟩ _ _ (word_eq d L cF 0 g.val (k1_off3 g) (K1.Facts₀.k1_off3_inb g) (16 * g.val) rfl hb0 2 Shapes1.Facts₀.slices_S16_o2_S1 Shapes1.Facts₀.inpos_S1_p0 Shapes1.Facts₀.shapeCasts_S16_S16 _ rfl) _ rfl); iexact HT2
  isplitl [HT3]
  · iapply (rest_to d L cF hcF ev q 0 ⟨16 * g.val + 1 + 1 + 1, _⟩ _ _ (word_eq d L cF 0 g.val (k1_off3 g) (K1.Facts₀.k1_off3_inb g) (16 * g.val) rfl hb0 3 Shapes1.Facts₀.slices_S16_o3_S1 Shapes1.Facts₀.inpos_S1_p0 Shapes1.Facts₀.shapeCasts_S16_S16 _ rfl) _ rfl); iexact HT3
  isplitl [HT4]
  · iapply (rest_to d L cF hcF ev q 0 ⟨16 * g.val + 1 + 1 + 1 + 1, _⟩ _ _ (word_eq d L cF 0 g.val (k1_off3 g) (K1.Facts₀.k1_off3_inb g) (16 * g.val) rfl hb0 4 Shapes1.Facts₀.slices_S16_o4_S1 Shapes1.Facts₀.inpos_S1_p0 Shapes1.Facts₀.shapeCasts_S16_S16 _ rfl) _ rfl); iexact HT4
  isplitl [HT5]
  · iapply (rest_to d L cF hcF ev q 0 ⟨16 * g.val + 1 + 1 + 1 + 1 + 1, _⟩ _ _ (word_eq d L cF 0 g.val (k1_off3 g) (K1.Facts₀.k1_off3_inb g) (16 * g.val) rfl hb0 5 Shapes1.Facts₀.slices_S16_o5_S1 Shapes1.Facts₀.inpos_S1_p0 Shapes1.Facts₀.shapeCasts_S16_S16 _ rfl) _ rfl); iexact HT5
  isplitl [HT6]
  · iapply (rest_to d L cF hcF ev q 0 ⟨16 * g.val + 1 + 1 + 1 + 1 + 1 + 1, _⟩ _ _ (word_eq d L cF 0 g.val (k1_off3 g) (K1.Facts₀.k1_off3_inb g) (16 * g.val) rfl hb0 6 Shapes1.Facts₀.slices_S16_o6_S1 Shapes1.Facts₀.inpos_S1_p0 Shapes1.Facts₀.shapeCasts_S16_S16 _ rfl) _ rfl); iexact HT6
  isplitl [HT7]
  · iapply (rest_to d L cF hcF ev q 0 ⟨16 * g.val + 1 + 1 + 1 + 1 + 1 + 1 + 1, _⟩ _ _ (word_eq d L cF 0 g.val (k1_off3 g) (K1.Facts₀.k1_off3_inb g) (16 * g.val) rfl hb0 7 Shapes1.Facts₀.slices_S16_o7_S1 Shapes1.Facts₀.inpos_S1_p0 Shapes1.Facts₀.shapeCasts_S16_S16 _ rfl) _ rfl); iexact HT7
  isplitl [HT8]
  · iapply (rest_to d L cF hcF ev q 0 ⟨16 * g.val + 1 + 1 + 1 + 1 + 1 + 1 + 1 + 1, _⟩ _ _ (word_eq d L cF 0 g.val (k1_off3 g) (K1.Facts₀.k1_off3_inb g) (16 * g.val) rfl hb0 8 Shapes1.Facts₀.slices_S16_o8_S1 Shapes1.Facts₀.inpos_S1_p0 Shapes1.Facts₀.shapeCasts_S16_S16 _ rfl) _ rfl); iexact HT8
  isplitl [HT9]
  · iapply (rest_to d L cF hcF ev q 0 ⟨16 * g.val + 1 + 1 + 1 + 1 + 1 + 1 + 1 + 1 + 1, _⟩ _ _ (word_eq d L cF 0 g.val (k1_off3 g) (K1.Facts₀.k1_off3_inb g) (16 * g.val) rfl hb0 9 Shapes1.Facts₀.slices_S16_o9_S1 Shapes1.Facts₀.inpos_S1_p0 Shapes1.Facts₀.shapeCasts_S16_S16 _ rfl) _ rfl); iexact HT9
  isplitl [HT10]
  · iapply (rest_to d L cF hcF ev q 0 ⟨16 * g.val + 1 + 1 + 1 + 1 + 1 + 1 + 1 + 1 + 1 + 1, _⟩ _ _ (word_eq d L cF 0 g.val (k1_off3 g) (K1.Facts₀.k1_off3_inb g) (16 * g.val) rfl hb0 10 Shapes1.Facts₀.slices_S16_o10_S1 Shapes1.Facts₀.inpos_S1_p0 Shapes1.Facts₀.shapeCasts_S16_S16 _ rfl) _ rfl); iexact HT10
  isplitl [HT11]
  · iapply (rest_to d L cF hcF ev q 0 ⟨16 * g.val + 1 + 1 + 1 + 1 + 1 + 1 + 1 + 1 + 1 + 1 + 1, _⟩ _ _ (word_eq d L cF 0 g.val (k1_off3 g) (K1.Facts₀.k1_off3_inb g) (16 * g.val) rfl hb0 11 Shapes1.Facts₀.slices_S16_o11_S1 Shapes1.Facts₀.inpos_S1_p0 Shapes1.Facts₀.shapeCasts_S16_S16 _ rfl) _ rfl); iexact HT11
  isplitl [HT12]
  · iapply (rest_to d L cF hcF ev q 0 ⟨16 * g.val + 1 + 1 + 1 + 1 + 1 + 1 + 1 + 1 + 1 + 1 + 1 + 1, _⟩ _ _ (word_eq d L cF 0 g.val (k1_off3 g) (K1.Facts₀.k1_off3_inb g) (16 * g.val) rfl hb0 12 Shapes1.Facts₀.slices_S16_o12_S1 Shapes1.Facts₀.inpos_S1_p0 Shapes1.Facts₀.shapeCasts_S16_S16 _ rfl) _ rfl); iexact HT12
  isplitl [HT13]
  · iapply (rest_to d L cF hcF ev q 0 ⟨16 * g.val + 1 + 1 + 1 + 1 + 1 + 1 + 1 + 1 + 1 + 1 + 1 + 1 + 1, _⟩ _ _ (word_eq d L cF 0 g.val (k1_off3 g) (K1.Facts₀.k1_off3_inb g) (16 * g.val) rfl hb0 13 Shapes1.Facts₀.slices_S16_o13_S1 Shapes1.Facts₀.inpos_S1_p0 Shapes1.Facts₀.shapeCasts_S16_S16 _ rfl) _ rfl); iexact HT13
  isplitl [HT14]
  · iapply (rest_to d L cF hcF ev q 0 ⟨16 * g.val + 1 + 1 + 1 + 1 + 1 + 1 + 1 + 1 + 1 + 1 + 1 + 1 + 1 + 1, _⟩ _ _ (word_eq d L cF 0 g.val (k1_off3 g) (K1.Facts₀.k1_off3_inb g) (16 * g.val) rfl hb0 14 Shapes1.Facts₀.slices_S16_o14_S1 Shapes1.Facts₀.inpos_S1_p0 Shapes1.Facts₀.shapeCasts_S16_S16 _ rfl) _ rfl); iexact HT14
  isplitl [HT15]
  · iapply (rest_to d L cF hcF ev q 0 ⟨16 * g.val + 1 + 1 + 1 + 1 + 1 + 1 + 1 + 1 + 1 + 1 + 1 + 1 + 1 + 1 + 1, _⟩ _ _ (word_eq d L cF 0 g.val (k1_off3 g) (K1.Facts₀.k1_off3_inb g) (16 * g.val) rfl hb0 15 Shapes1.Facts₀.slices_S16_o15_S1 Shapes1.Facts₀.inpos_S1_p0 Shapes1.Facts₀.shapeCasts_S16_S16 _ rfl) _ rfl); iexact HT15
  iempintro

end Cert.Proof.KTileVIssue0

end
-- ==== Proof.KTileVIssue1.lean ====
/-
  Chunk 1's issue trip. Trip `g` of the chunk's issue loop loads the 16 centre words of elements `16g … 16g + 15`
  of the chunk and starts, for each, the copy of the table row it names into row `16g + l` of the gathered-rows
  scratch, all on the one gather semaphore: transfers `16g … 16g + 15` of the chunk's batch. Each word is below
  the table's extent (the index scratch holds the subcore's centre words); each copy's delivery is the batch's.
-/
import proofs.«218857_g62938450756068_cont_9to1c4b_813_41_alg».proof.Proof.KTileVWord

set_option maxRecDepth 100000

noncomputable section

namespace Cert.Proof.KTileVIssue1

open Cert.Kernel Cert.Kernel.Gen Cert.Proof.KernelBase Cert.Proof.KTileVDefs Cert.Proof.KTileVMem Cert.Proof.KTileVInv
open Cert.Proof.KTileVIssueLem Cert.Proof.KTileVWord

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (L : grid1.Coords)
variable (cF : Buf (Elt F) (l0 d L)) (hcF : ∀ x : S512.Idx, ((cF : S512.Idx → BitVec 32) x).toNat < 1000000)
variable (ev : Buf (Elt F) (lev d L)) (q : PosShare TreeShare)

set_option maxHeartbeats 0 in
theorem issue_step1 [∀ e, Nonempty (Elt F e)] (v2 c0 : BitVec 32) (g : Fin k1_t4_loop.trips) (acc : Unit) :
    issueAt d L cF hcF ev q 1 g.val acc
      ⊢ wp frame (wpE (defs₀ (F := F)) 𝒱₀ (thr d L) none) Set.univ
          (k1_t4_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 v2 c0 g acc)
          (issueAt d L cF hcF ev q 1 (g.val + 1)) := by
  have hg : g.val < 4 := g.isLt
  have hb1 : 16 * g.val + 64 = 64 * (1 : Fin 8).val + 16 * g.val := by show 16 * g.val + 64 = 64 * 1 + 16 * g.val; omega
  unfold issueAt
  rw [show 16 * (g.val + 1) = 16 * g.val + 1 + 1 + 1 + 1 + 1 + 1 + 1 + 1 + 1 + 1 + 1 + 1 + 1 + 1 + 1 + 1 from by omega]
  rw [Ring.bigSep_rangeSet_head (Φ := rowOwn d L) (lo := 16 * g.val) (by omega) (by omega),
    Ring.bigSep_rangeSet_head (Φ := rowOwn d L) (lo := 16 * g.val + 1) (by omega) (by omega),
    Ring.bigSep_rangeSet_head (Φ := rowOwn d L) (lo := 16 * g.val + 1 + 1) (by omega) (by omega),
    Ring.bigSep_rangeSet_head (Φ := rowOwn d L) (lo := 16 * g.val + 1 + 1 + 1) (by omega) (by omega),
    Ring.bigSep_rangeSet_head (Φ := rowOwn d L) (lo := 16 * g.val + 1 + 1 + 1 + 1) (by omega) (by omega),
    Ring.bigSep_rangeSet_head (Φ := rowOwn d L) (lo := 16 * g.val + 1 + 1 + 1 + 1 + 1) (by omega) (by omega),
    Ring.bigSep_rangeSet_head (Φ := rowOwn d L) (lo := 16 * g.val + 1 + 1 + 1 + 1 + 1 + 1) (by omega) (by omega),
    Ring.bigSep_rangeSet_head (Φ := rowOwn d L) (lo := 16 * g.val + 1 + 1 + 1 + 1 + 1 + 1 + 1) (by omega) (by omega),
    Ring.bigSep_rangeSet_head (Φ := rowOwn d L) (lo := 16 * g.val + 1 + 1 + 1 + 1 + 1 + 1 + 1 + 1) (by omega) (by omega),
    Ring.bigSep_rangeSet_head (Φ := rowOwn d L) (lo := 16 * g.val + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1 + 1) (by omega) (by omega),
    Ring.bigSep_rangeSet_head (Φ := tok d L ev q) (lo := 16 * g.val) (by omega) (by omega),
    Ring.bigSep_rangeSet_head (Φ := tok d L ev q) (lo := 16 * g.val + 1) (by omega) (by omega),
    Ring.bigSep_rangeSet_head (Φ := tok d L ev q) (lo := 16 * g.val + 1 + 1) (by omega) (by omega),
    Ring.bigSep_rangeSet_head (Φ := tok d L ev q) (lo := 16 * g.val + 1 + 1 + 1) (by omega) (by omega),
    Ring.bigSep_rangeSet_head (Φ := tok d L ev q) (lo := 16 * g.val + 1 + 1 + 1 + 1) (by omega) (by omega),
    Ring.bigSep_rangeSet_head (Φ := tok d L ev q) (lo := 16 * g.val + 1 + 1 + 1 + 1 + 1) (by omega) (by omega),
    Ring.bigSep_rangeSet_head (Φ := tok d L ev q) (lo := 16 * g.val + 1 + 1 + 1 + 1 + 1 + 1) (by omega) (by omega),
    Ring.bigSep_rangeSet_head (Φ := tok d L ev q) (lo := 16 * g.val + 1 + 1 + 1 + 1 + 1 + 1 + 1) (by omega) (by omega),
    Ring.bigSep_rangeSet_head (Φ := tok d L ev q) (lo := 16 * g.val + 1 + 1 + 1 + 1 + 1 + 1 + 1 + 1) (by omega) (by omega),
    Ring.bigSep_rangeSet_head (Φ := tok d L ev q) (lo := 16 * g.val + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1 + 1) (by omega) (by omega)]
  rw [Ring.bigSep_rangeSet_split (Φ := tokRest d L cF hcF ev q 1) (a := 0) (b := 16 * g.val) (d := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 1) (lo := 16 * g.val + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_empty (Φ := tokRest d L cF hcF ev q 1) (lo := 16 * g.val + 1 + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (le_refl _)]
  iintro ⟨HB, Hc, ⟨HR0, HR1, HR2, HR3, HR4, HR5, HR6, HR7, HR8, HR9, HR10, HR11, HR12, HR13, HR14, HR15, HRs⟩, ⟨HT0, HT1, HT2, HT3, HT4, HT5, HT6, HT7, HT8, HT9, HT10, HT11, HT12, HT13, HT14, HT15, HTs⟩, Hrest⟩
  ihave HR0' := (rowOwn_to d L ⟨16 * g.val, _⟩ (k1_off45 g 0#32) (K1.Facts₀.k1_off45_inb g 0) rfl) $$ HR0
  icases HR0' with ⟨%f0, HR0⟩
  ihave HR1' := (rowOwn_to d L ⟨16 * g.val + 1, _⟩ (k1_off47 g 1#32) (K1.Facts₀.k1_off47_inb g 0) rfl) $$ HR1
  icases HR1' with ⟨%f1, HR1⟩
  ihave HR2' := (rowOwn_to d L ⟨16 * g.val + 1 + 1, _⟩ (k1_off49 g 2#32) (K1.Facts₀.k1_off49_inb g 0) rfl) $$ HR2
  icases HR2' with ⟨%f2, HR2⟩
  ihave HR3' := (rowOwn_to d L ⟨16 * g.val + 1 + 1 + 1, _⟩ (k1_off51 g 3#32) (K1.Facts₀.k1_off51_inb g 0) rfl) $$ HR3
  icases HR3' with ⟨%f3, HR3⟩
  ihave HR4' := (rowOwn_to d L ⟨16 * g.val + 1 + 1 + 1 + 1, _⟩ (k1_off53 g 4#32) (K1.Facts₀.k1_off53_inb g 0) rfl) $$ HR4
  icases HR4' with ⟨%f4, HR4⟩
  ihave HR5' := (rowOwn_to d L ⟨16 * g.val + 1 + 1 + 1 + 1 + 1, _⟩ (k1_off55 g 5#32) (K1.Facts₀.k1_off55_inb g 0) rfl) $$ HR5
  icases HR5' with ⟨%f5, HR5⟩
  ihave HR6' := (rowOwn_to d L ⟨16 * g.val + 1 + 1 + 1 + 1 + 1 + 1, _⟩ (k1_off57 g 6#32) (K1.Facts₀.k1_off57_inb g 0) rfl) $$ HR6
  icases HR6' with ⟨%f6, HR6⟩
  ihave HR7' := (rowOwn_to d L ⟨16 * g.val + 1 + 1 + 1 + 1 + 1 + 1 + 1, _⟩ (k1_off59 g 7#32) (K1.Facts₀.k1_off59_inb g 0) rfl) $$ HR7
  icases HR7' with ⟨%f7, HR7⟩
  ihave HR8' := (rowOwn_to d L ⟨16 * g.val + 1 + 1 + 1 + 1 + 1 + 1 + 1 + 1, _⟩ (k1_off61 g 8#32) (K1.Facts₀.k1_off61_inb g 0) rfl) $$ HR8
  icases HR8' with ⟨%f8, HR8⟩
  ihave HR9' := (rowOwn_to d L ⟨16 * g.val + 1 + 1 + 1 + 1 + 1 + 1 + 1 + 1 + 1, _⟩ (k1_off63 g 9#32) (K1.Facts₀.k1_off63_inb g 0) rfl) $$ HR9
  icases HR9' with ⟨%f9, HR9⟩
  ihave HR10' := (rowOwn_to d L ⟨16 * g.val + 1 + 1 + 1 + 1 + 1 + 1 + 1 + 1 + 1 + 1, _⟩ (k1_off65 g 10#32) (K1.Facts₀.k1_off65_inb g 0) rfl) $$ HR10
  icases HR10' with ⟨%f10, HR10⟩
  ihave HR11' := (rowOwn_to d L ⟨16 * g.val + 1 + 1 + 1 + 1 + 1 + 1 + 1 + 1 + 1 + 1 + 1, _⟩ (k1_off67 g 11#32) (K1.Facts₀.k1_off67_inb g 0) rfl) $$ HR11
  icases HR11' with ⟨%f11, HR11⟩
  ihave HR12' := (rowOwn_to d L ⟨16 * g.val + 1 + 1 + 1 + 1 + 1 + 1 + 1 + 1 + 1 + 1 + 1 + 1, _⟩ (k1_off69 g 12#32) (K1.Facts₀.k1_off69_inb g 0) rfl) $$ HR12
  icases HR12' with ⟨%f12, HR12⟩
  ihave HR13' := (rowOwn_to d L ⟨16 * g.val + 1 + 1 + 1 + 1 + 1 + 1 + 1 + 1 + 1 + 1 + 1 + 1 + 1, _⟩ (k1_off71 g 13#32) (K1.Facts₀.k1_off71_inb g 0) rfl) $$ HR13
  icases HR13' with ⟨%f13, HR13⟩
  ihave HR14' := (rowOwn_to d L ⟨16 * g.val + 1 + 1 + 1 + 1 + 1 + 1 + 1 + 1 + 1 + 1 + 1 + 1 + 1 + 1, _⟩ (k1_off73 g 14#32) (K1.Facts₀.k1_off73_inb g 0) rfl) $$ HR14
  icases HR14' with ⟨%f14, HR14⟩
  ihave HR15' := (rowOwn_to d L ⟨16 * g.val + 1 + 1 + 1 + 1 + 1 + 1 + 1 + 1 + 1 + 1 + 1 + 1 + 1 + 1 + 1, _⟩ (k1_off75 g) (K1.Facts₀.k1_off75_inb g) rfl) $$ HR15
  icases HR15' with ⟨%f15, HR15⟩
  sl_unfold [k1_t4_body]
  sl_exec (disch := first
    | omega
    | exact TileVRect.row_inb _ (hcF _)
    | exact deliver d L cF hcF ev q 1 _ _ _ rfl _ _ (word_eq d L cF 1 g.val _ _ (16 * g.val + 64) rfl hb1 _ (by decide) (by decide) _ _ rfl) _ _ rfl _ rfl)
  sl_step
  isplitl [HB]; · iexact HB
  isplitl [Hc]; · iexact Hc
  isplitl [HRs]; · iexact HRs
  isplitl [HTs]; · iexact HTs
  isplitl [Hrest]; · iexact Hrest
  isplitl [HT0]
  · iapply (rest_to d L cF hcF ev q 1 ⟨16 * g.val, _⟩ _ _ (word_eq d L cF 1 g.val (k1_off42 g) (K1.Facts₀.k1_off42_inb g) (16 * g.val + 64) rfl hb1 0 Shapes1.Facts₀.slices_S16_o0_S1 Shapes1.Facts₀.inpos_S1_p0 Shapes1.Facts₀.shapeCasts_S16_S16 _ rfl) _ rfl); iexact HT0
  isplitl [HT1]
  · iapply (rest_to d L cF hcF ev q 1 ⟨16 * g.val + 1, _⟩ _ _ (word_eq d L cF 1 g.val (k1_off42 g) (K1.Facts₀.k1_off42_inb g) (16 * g.val + 64) rfl hb1 1 Shapes1.Facts₀.slices_S16_o1_S1 Shapes1.Facts₀.inpos_S1_p0 Shapes1.Facts₀.shapeCasts_S16_S16 _ rfl) _ rfl); iexact HT1
  isplitl [HT2]
  · iapply (rest_to d L cF hcF ev q 1 ⟨16 * g.val + 1 + 1, _⟩ _ _ (word_eq d L cF 1 g.val (k1_off42 g) (K1.Facts₀.k1_off42_inb g) (16 * g.val + 64) rfl hb1 2 Shapes1.Facts₀.slices_S16_o2_S1 Shapes1.Facts₀.inpos_S1_p0 Shapes1.Facts₀.shapeCasts_S16_S16 _ rfl) _ rfl); iexact HT2
  isplitl [HT3]
  · iapply (rest_to d L cF hcF ev q 1 ⟨16 * g.val + 1 + 1 + 1, _⟩ _ _ (word_eq d L cF 1 g.val (k1_off42 g) (K1.Facts₀.k1_off42_inb g) (16 * g.val + 64) rfl hb1 3 Shapes1.Facts₀.slices_S16_o3_S1 Shapes1.Facts₀.inpos_S1_p0 Shapes1.Facts₀.shapeCasts_S16_S16 _ rfl) _ rfl); iexact HT3
  isplitl [HT4]
  · iapply (rest_to d L cF hcF ev q 1 ⟨16 * g.val + 1 + 1 + 1 + 1, _⟩ _ _ (word_eq d L cF 1 g.val (k1_off42 g) (K1.Facts₀.k1_off42_inb g) (16 * g.val + 64) rfl hb1 4 Shapes1.Facts₀.slices_S16_o4_S1 Shapes1.Facts₀.inpos_S1_p0 Shapes1.Facts₀.shapeCasts_S16_S16 _ rfl) _ rfl); iexact HT4
  isplitl [HT5]
  · iapply (rest_to d L cF hcF ev q 1 ⟨16 * g.val + 1 + 1 + 1 + 1 + 1, _⟩ _ _ (word_eq d L cF 1 g.val (k1_off42 g) (K1.Facts₀.k1_off42_inb g) (16 * g.val + 64) rfl hb1 5 Shapes1.Facts₀.slices_S16_o5_S1 Shapes1.Facts₀.inpos_S1_p0 Shapes1.Facts₀.shapeCasts_S16_S16 _ rfl) _ rfl); iexact HT5
  isplitl [HT6]
  · iapply (rest_to d L cF hcF ev q 1 ⟨16 * g.val + 1 + 1 + 1 + 1 + 1 + 1, _⟩ _ _ (word_eq d L cF 1 g.val (k1_off42 g) (K1.Facts₀.k1_off42_inb g) (16 * g.val + 64) rfl hb1 6 Shapes1.Facts₀.slices_S16_o6_S1 Shapes1.Facts₀.inpos_S1_p0 Shapes1.Facts₀.shapeCasts_S16_S16 _ rfl) _ rfl); iexact HT6
  isplitl [HT7]
  · iapply (rest_to d L cF hcF ev q 1 ⟨16 * g.val + 1 + 1 + 1 + 1 + 1 + 1 + 1, _⟩ _ _ (word_eq d L cF 1 g.val (k1_off42 g) (K1.Facts₀.k1_off42_inb g) (16 * g.val + 64) rfl hb1 7 Shapes1.Facts₀.slices_S16_o7_S1 Shapes1.Facts₀.inpos_S1_p0 Shapes1.Facts₀.shapeCasts_S16_S16 _ rfl) _ rfl); iexact HT7
  isplitl [HT8]
  · iapply (rest_to d L cF hcF ev q 1 ⟨16 * g.val + 1 + 1 + 1 + 1 + 1 + 1 + 1 + 1, _⟩ _ _ (word_eq d L cF 1 g.val (k1_off42 g) (K1.Facts₀.k1_off42_inb g) (16 * g.val + 64) rfl hb1 8 Shapes1.Facts₀.slices_S16_o8_S1 Shapes1.Facts₀.inpos_S1_p0 Shapes1.Facts₀.shapeCasts_S16_S16 _ rfl) _ rfl); iexact HT8
  isplitl [HT9]
  · iapply (rest_to d L cF hcF ev q 1 ⟨16 * g.val + 1 + 1 + 1 + 1 + 1 + 1 + 1 + 1 + 1, _⟩ _ _ (word_eq d L cF 1 g.val (k1_off42 g) (K1.Facts₀.k1_off42_inb g) (16 * g.val + 64) rfl hb1 9 Shapes1.Facts₀.slices_S16_o9_S1 Shapes1.Facts₀.inpos_S1_p0 Shapes1.Facts₀.shapeCasts_S16_S16 _ rfl) _ rfl); iexact HT9
  isplitl [HT10]
  · iapply (rest_to d L cF hcF ev q 1 ⟨16 * g.val + 1 + 1 + 1 + 1 + 1 + 1 + 1 + 1 + 1 + 1, _⟩ _ _ (word_eq d L cF 1 g.val (k1_off42 g) (K1.Facts₀.k1_off42_inb g) (16 * g.val + 64) rfl hb1 10 Shapes1.Facts₀.slices_S16_o10_S1 Shapes1.Facts₀.inpos_S1_p0 Shapes1.Facts₀.shapeCasts_S16_S16 _ rfl) _ rfl); iexact HT10
  isplitl [HT11]
  · iapply (rest_to d L cF hcF ev q 1 ⟨16 * g.val + 1 + 1 + 1 + 1 + 1 + 1 + 1 + 1 + 1 + 1 + 1, _⟩ _ _ (word_eq d L cF 1 g.val (k1_off42 g) (K1.Facts₀.k1_off42_inb g) (16 * g.val + 64) rfl hb1 11 Shapes1.Facts₀.slices_S16_o11_S1 Shapes1.Facts₀.inpos_S1_p0 Shapes1.Facts₀.shapeCasts_S16_S16 _ rfl) _ rfl); iexact HT11
  isplitl [HT12]
  · iapply (rest_to d L cF hcF ev q 1 ⟨16 * g.val + 1 + 1 + 1 + 1 + 1 + 1 + 1 + 1 + 1 + 1 + 1 + 1, _⟩ _ _ (word_eq d L cF 1 g.val (k1_off42 g) (K1.Facts₀.k1_off42_inb g) (16 * g.val + 64) rfl hb1 12 Shapes1.Facts₀.slices_S16_o12_S1 Shapes1.Facts₀.inpos_S1_p0 Shapes1.Facts₀.shapeCasts_S16_S16 _ rfl) _ rfl); iexact HT12
  isplitl [HT13]
  · iapply (rest_to d L cF hcF ev q 1 ⟨16 * g.val + 1 + 1 + 1 + 1 + 1 + 1 + 1 + 1 + 1 + 1 + 1 + 1 + 1, _⟩ _ _ (word_eq d L cF 1 g.val (k1_off42 g) (K1.Facts₀.k1_off42_inb g) (16 * g.val + 64) rfl hb1 13 Shapes1.Facts₀.slices_S16_o13_S1 Shapes1.Facts₀.inpos_S1_p0 Shapes1.Facts₀.shapeCasts_S16_S16 _ rfl) _ rfl); iexact HT13
  isplitl [HT14]
  · iapply (rest_to d L cF hcF ev q 1 ⟨16 * g.val + 1 + 1 + 1 + 1 + 1 + 1 + 1 + 1 + 1 + 1 + 1 + 1 + 1 + 1, _⟩ _ _ (word_eq d L cF 1 g.val (k1_off42 g) (K1.Facts₀.k1_off42_inb g) (16 * g.val + 64) rfl hb1 14 Shapes1.Facts₀.slices_S16_o14_S1 Shapes1.Facts₀.inpos_S1_p0 Shapes1.Facts₀.shapeCasts_S16_S16 _ rfl) _ rfl); iexact HT14
  isplitl [HT15]
  · iapply (rest_to d L cF hcF ev q 1 ⟨16 * g.val + 1 + 1 + 1 + 1 + 1 + 1 + 1 + 1 + 1 + 1 + 1 + 1 + 1 + 1 + 1, _⟩ _ _ (word_eq d L cF 1 g.val (k1_off42 g) (K1.Facts₀.k1_off42_inb g) (16 * g.val + 64) rfl hb1 15 Shapes1.Facts₀.slices_S16_o15_S1 Shapes1.Facts₀.inpos_S1_p0 Shapes1.Facts₀.shapeCasts_S16_S16 _ rfl) _ rfl); iexact HT15
  iempintro

end Cert.Proof.KTileVIssue1

end
-- ==== Proof.KTileVIssue2.lean ====
/-
  Chunk 2's issue trip. Trip `g` of the chunk's issue loop loads the 16 centre words of elements `16g … 16g + 15`
  of the chunk and starts, for each, the copy of the table row it names into row `16g + l` of the gathered-rows
  scratch, all on the one gather semaphore: transfers `16g … 16g + 15` of the chunk's batch. Each word is below
  the table's extent (the index scratch holds the subcore's centre words); each copy's delivery is the batch's.
-/
import proofs.«218857_g62938450756068_cont_9to1c4b_813_41_alg».proof.Proof.KTileVWord

set_option maxRecDepth 100000

noncomputable section

namespace Cert.Proof.KTileVIssue2

open Cert.Kernel Cert.Kernel.Gen Cert.Proof.KernelBase Cert.Proof.KTileVDefs Cert.Proof.KTileVMem Cert.Proof.KTileVInv
open Cert.Proof.KTileVIssueLem Cert.Proof.KTileVWord

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (L : grid1.Coords)
variable (cF : Buf (Elt F) (l0 d L)) (hcF : ∀ x : S512.Idx, ((cF : S512.Idx → BitVec 32) x).toNat < 1000000)
variable (ev : Buf (Elt F) (lev d L)) (q : PosShare TreeShare)

set_option maxHeartbeats 0 in
theorem issue_step2 [∀ e, Nonempty (Elt F e)] (v2 c0 : BitVec 32) (g : Fin k1_t7_loop.trips) (acc : Unit) :
    issueAt d L cF hcF ev q 2 g.val acc
      ⊢ wp frame (wpE (defs₀ (F := F)) 𝒱₀ (thr d L) none) Set.univ
          (k1_t7_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 v2 c0 g acc)
          (issueAt d L cF hcF ev q 2 (g.val + 1)) := by
  have hg : g.val < 4 := g.isLt
  have hb2 : 16 * g.val + 128 = 64 * (2 : Fin 8).val + 16 * g.val := by show 16 * g.val + 128 = 64 * 2 + 16 * g.val; omega
  unfold issueAt
  rw [show 16 * (g.val + 1) = 16 * g.val + 1 + 1 + 1 + 1 + 1 + 1 + 1 + 1 + 1 + 1 + 1 + 1 + 1 + 1 + 1 + 1 from by omega]
  rw [Ring.bigSep_rangeSet_head (Φ := rowOwn d L) (lo := 16 * g.val) (by omega) (by omega),
    Ring.bigSep_rangeSet_head (Φ := rowOwn d L) (lo := 16 * g.val + 1) (by omega) (by omega),
    Ring.bigSep_rangeSet_head (Φ := rowOwn d L) (lo := 16 * g.val + 1 + 1) (by omega) (by omega),
    Ring.bigSep_rangeSet_head (Φ := rowOwn d L) (lo := 16 * g.val + 1 + 1 + 1) (by omega) (by omega),
    Ring.bigSep_rangeSet_head (Φ := rowOwn d L) (lo := 16 * g.val + 1 + 1 + 1 + 1) (by omega) (by omega),
    Ring.bigSep_rangeSet_head (Φ := rowOwn d L) (lo := 16 * g.val + 1 + 1 + 1 + 1 + 1) (by omega) (by omega),
    Ring.bigSep_rangeSet_head (Φ := rowOwn d L) (lo := 16 * g.val + 1 + 1 + 1 + 1 + 1 + 1) (by omega) (by omega),
    Ring.bigSep_rangeSet_head (Φ := rowOwn d L) (lo := 16 * g.val + 1 + 1 + 1 + 1 + 1 + 1 + 1) (by omega) (by omega),
    Ring.bigSep_rangeSet_head (Φ := rowOwn d L) (lo := 16 * g.val + 1 + 1 + 1 + 1 + 1 + 1 + 1 + 1) (by omega) (by omega),
    Ring.bigSep_rangeSet_head (Φ := rowOwn d L) (lo := 16 * g.val + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1 + 1) (by omega) (by omega),
    Ring.bigSep_rangeSet_head (Φ := tok d L ev q) (lo := 16 * g.val) (by omega) (by omega),
    Ring.bigSep_rangeSet_head (Φ := tok d L ev q) (lo := 16 * g.val + 1) (by omega) (by omega),
    Ring.bigSep_rangeSet_head (Φ := tok d L ev q) (lo := 16 * g.val + 1 + 1) (by omega) (by omega),
    Ring.bigSep_rangeSet_head (Φ := tok d L ev q) (lo := 16 * g.val + 1 + 1 + 1) (by omega) (by omega),
    Ring.bigSep_rangeSet_head (Φ := tok d L ev q) (lo := 16 * g.val + 1 + 1 + 1 + 1) (by omega) (by omega),
    Ring.bigSep_rangeSet_head (Φ := tok d L ev q) (lo := 16 * g.val + 1 + 1 + 1 + 1 + 1) (by omega) (by omega),
    Ring.bigSep_rangeSet_head (Φ := tok d L ev q) (lo := 16 * g.val + 1 + 1 + 1 + 1 + 1 + 1) (by omega) (by omega),
    Ring.bigSep_rangeSet_head (Φ := tok d L ev q) (lo := 16 * g.val + 1 + 1 + 1 + 1 + 1 + 1 + 1) (by omega) (by omega),
    Ring.bigSep_rangeSet_head (Φ := tok d L ev q) (lo := 16 * g.val + 1 + 1 + 1 + 1 + 1 + 1 + 1 + 1) (by omega) (by omega),
    Ring.bigSep_rangeSet_head (Φ := tok d L ev q) (lo := 16 * g.val + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1 + 1) (by omega) (by omega)]
  rw [Ring.bigSep_rangeSet_split (Φ := tokRest d L cF hcF ev q 2) (a := 0) (b := 16 * g.val) (d := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 2) (lo := 16 * g.val + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_empty (Φ := tokRest d L cF hcF ev q 2) (lo := 16 * g.val + 1 + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (le_refl _)]
  iintro ⟨HB, Hc, ⟨HR0, HR1, HR2, HR3, HR4, HR5, HR6, HR7, HR8, HR9, HR10, HR11, HR12, HR13, HR14, HR15, HRs⟩, ⟨HT0, HT1, HT2, HT3, HT4, HT5, HT6, HT7, HT8, HT9, HT10, HT11, HT12, HT13, HT14, HT15, HTs⟩, Hrest⟩
  ihave HR0' := (rowOwn_to d L ⟨16 * g.val, _⟩ (k1_off84 g 0#32) (K1.Facts₀.k1_off84_inb g 0) rfl) $$ HR0
  icases HR0' with ⟨%f0, HR0⟩
  ihave HR1' := (rowOwn_to d L ⟨16 * g.val + 1, _⟩ (k1_off86 g 1#32) (K1.Facts₀.k1_off86_inb g 0) rfl) $$ HR1
  icases HR1' with ⟨%f1, HR1⟩
  ihave HR2' := (rowOwn_to d L ⟨16 * g.val + 1 + 1, _⟩ (k1_off88 g 2#32) (K1.Facts₀.k1_off88_inb g 0) rfl) $$ HR2
  icases HR2' with ⟨%f2, HR2⟩
  ihave HR3' := (rowOwn_to d L ⟨16 * g.val + 1 + 1 + 1, _⟩ (k1_off90 g 3#32) (K1.Facts₀.k1_off90_inb g 0) rfl) $$ HR3
  icases HR3' with ⟨%f3, HR3⟩
  ihave HR4' := (rowOwn_to d L ⟨16 * g.val + 1 + 1 + 1 + 1, _⟩ (k1_off92 g 4#32) (K1.Facts₀.k1_off92_inb g 0) rfl) $$ HR4
  icases HR4' with ⟨%f4, HR4⟩
  ihave HR5' := (rowOwn_to d L ⟨16 * g.val + 1 + 1 + 1 + 1 + 1, _⟩ (k1_off94 g 5#32) (K1.Facts₀.k1_off94_inb g 0) rfl) $$ HR5
  icases HR5' with ⟨%f5, HR5⟩
  ihave HR6' := (rowOwn_to d L ⟨16 * g.val + 1 + 1 + 1 + 1 + 1 + 1, _⟩ (k1_off96 g 6#32) (K1.Facts₀.k1_off96_inb g 0) rfl) $$ HR6
  icases HR6' with ⟨%f6, HR6⟩
  ihave HR7' := (rowOwn_to d L ⟨16 * g.val + 1 + 1 + 1 + 1 + 1 + 1 + 1, _⟩ (k1_off98 g 7#32) (K1.Facts₀.k1_off98_inb g 0) rfl) $$ HR7
  icases HR7' with ⟨%f7, HR7⟩
  ihave HR8' := (rowOwn_to d L ⟨16 * g.val + 1 + 1 + 1 + 1 + 1 + 1 + 1 + 1, _⟩ (k1_off100 g 8#32) (K1.Facts₀.k1_off100_inb g 0) rfl) $$ HR8
  icases HR8' with ⟨%f8, HR8⟩
  ihave HR9' := (rowOwn_to d L ⟨16 * g.val + 1 + 1 + 1 + 1 + 1 + 1 + 1 + 1 + 1, _⟩ (k1_off102 g 9#32) (K1.Facts₀.k1_off102_inb g 0) rfl) $$ HR9
  icases HR9' with ⟨%f9, HR9⟩
  ihave HR10' := (rowOwn_to d L ⟨16 * g.val + 1 + 1 + 1 + 1 + 1 + 1 + 1 + 1 + 1 + 1, _⟩ (k1_off104 g 10#32) (K1.Facts₀.k1_off104_inb g 0) rfl) $$ HR10
  icases HR10' with ⟨%f10, HR10⟩
  ihave HR11' := (rowOwn_to d L ⟨16 * g.val + 1 + 1 + 1 + 1 + 1 + 1 + 1 + 1 + 1 + 1 + 1, _⟩ (k1_off106 g 11#32) (K1.Facts₀.k1_off106_inb g 0) rfl) $$ HR11
  icases HR11' with ⟨%f11, HR11⟩
  ihave HR12' := (rowOwn_to d L ⟨16 * g.val + 1 + 1 + 1 + 1 + 1 + 1 + 1 + 1 + 1 + 1 + 1 + 1, _⟩ (k1_off108 g 12#32) (K1.Facts₀.k1_off108_inb g 0) rfl) $$ HR12
  icases HR12' with ⟨%f12, HR12⟩
  ihave HR13' := (rowOwn_to d L ⟨16 * g.val + 1 + 1 + 1 + 1 + 1 + 1 + 1 + 1 + 1 + 1 + 1 + 1 + 1, _⟩ (k1_off110 g 13#32) (K1.Facts₀.k1_off110_inb g 0) rfl) $$ HR13
  icases HR13' with ⟨%f13, HR13⟩
  ihave HR14' := (rowOwn_to d L ⟨16 * g.val + 1 + 1 + 1 + 1 + 1 + 1 + 1 + 1 + 1 + 1 + 1 + 1 + 1 + 1, _⟩ (k1_off112 g 14#32) (K1.Facts₀.k1_off112_inb g 0) rfl) $$ HR14
  icases HR14' with ⟨%f14, HR14⟩
  ihave HR15' := (rowOwn_to d L ⟨16 * g.val + 1 + 1 + 1 + 1 + 1 + 1 + 1 + 1 + 1 + 1 + 1 + 1 + 1 + 1 + 1, _⟩ (k1_off114 g) (K1.Facts₀.k1_off114_inb g) rfl) $$ HR15
  icases HR15' with ⟨%f15, HR15⟩
  sl_unfold [k1_t7_body]
  sl_exec (disch := first
    | omega
    | exact TileVRect.row_inb _ (hcF _)
    | exact deliver d L cF hcF ev q 2 _ _ _ rfl _ _ (word_eq d L cF 2 g.val _ _ (16 * g.val + 128) rfl hb2 _ (by decide) (by decide) _ _ rfl) _ _ rfl _ rfl)
  sl_step
  isplitl [HB]; · iexact HB
  isplitl [Hc]; · iexact Hc
  isplitl [HRs]; · iexact HRs
  isplitl [HTs]; · iexact HTs
  isplitl [Hrest]; · iexact Hrest
  isplitl [HT0]
  · iapply (rest_to d L cF hcF ev q 2 ⟨16 * g.val, _⟩ _ _ (word_eq d L cF 2 g.val (k1_off81 g) (K1.Facts₀.k1_off81_inb g) (16 * g.val + 128) rfl hb2 0 Shapes1.Facts₀.slices_S16_o0_S1 Shapes1.Facts₀.inpos_S1_p0 Shapes1.Facts₀.shapeCasts_S16_S16 _ rfl) _ rfl); iexact HT0
  isplitl [HT1]
  · iapply (rest_to d L cF hcF ev q 2 ⟨16 * g.val + 1, _⟩ _ _ (word_eq d L cF 2 g.val (k1_off81 g) (K1.Facts₀.k1_off81_inb g) (16 * g.val + 128) rfl hb2 1 Shapes1.Facts₀.slices_S16_o1_S1 Shapes1.Facts₀.inpos_S1_p0 Shapes1.Facts₀.shapeCasts_S16_S16 _ rfl) _ rfl); iexact HT1
  isplitl [HT2]
  · iapply (rest_to d L cF hcF ev q 2 ⟨16 * g.val + 1 + 1, _⟩ _ _ (word_eq d L cF 2 g.val (k1_off81 g) (K1.Facts₀.k1_off81_inb g) (16 * g.val + 128) rfl hb2 2 Shapes1.Facts₀.slices_S16_o2_S1 Shapes1.Facts₀.inpos_S1_p0 Shapes1.Facts₀.shapeCasts_S16_S16 _ rfl) _ rfl); iexact HT2
  isplitl [HT3]
  · iapply (rest_to d L cF hcF ev q 2 ⟨16 * g.val + 1 + 1 + 1, _⟩ _ _ (word_eq d L cF 2 g.val (k1_off81 g) (K1.Facts₀.k1_off81_inb g) (16 * g.val + 128) rfl hb2 3 Shapes1.Facts₀.slices_S16_o3_S1 Shapes1.Facts₀.inpos_S1_p0 Shapes1.Facts₀.shapeCasts_S16_S16 _ rfl) _ rfl); iexact HT3
  isplitl [HT4]
  · iapply (rest_to d L cF hcF ev q 2 ⟨16 * g.val + 1 + 1 + 1 + 1, _⟩ _ _ (word_eq d L cF 2 g.val (k1_off81 g) (K1.Facts₀.k1_off81_inb g) (16 * g.val + 128) rfl hb2 4 Shapes1.Facts₀.slices_S16_o4_S1 Shapes1.Facts₀.inpos_S1_p0 Shapes1.Facts₀.shapeCasts_S16_S16 _ rfl) _ rfl); iexact HT4
  isplitl [HT5]
  · iapply (rest_to d L cF hcF ev q 2 ⟨16 * g.val + 1 + 1 + 1 + 1 + 1, _⟩ _ _ (word_eq d L cF 2 g.val (k1_off81 g) (K1.Facts₀.k1_off81_inb g) (16 * g.val + 128) rfl hb2 5 Shapes1.Facts₀.slices_S16_o5_S1 Shapes1.Facts₀.inpos_S1_p0 Shapes1.Facts₀.shapeCasts_S16_S16 _ rfl) _ rfl); iexact HT5
  isplitl [HT6]
  · iapply (rest_to d L cF hcF ev q 2 ⟨16 * g.val + 1 + 1 + 1 + 1 + 1 + 1, _⟩ _ _ (word_eq d L cF 2 g.val (k1_off81 g) (K1.Facts₀.k1_off81_inb g) (16 * g.val + 128) rfl hb2 6 Shapes1.Facts₀.slices_S16_o6_S1 Shapes1.Facts₀.inpos_S1_p0 Shapes1.Facts₀.shapeCasts_S16_S16 _ rfl) _ rfl); iexact HT6
  isplitl [HT7]
  · iapply (rest_to d L cF hcF ev q 2 ⟨16 * g.val + 1 + 1 + 1 + 1 + 1 + 1 + 1, _⟩ _ _ (word_eq d L cF 2 g.val (k1_off81 g) (K1.Facts₀.k1_off81_inb g) (16 * g.val + 128) rfl hb2 7 Shapes1.Facts₀.slices_S16_o7_S1 Shapes1.Facts₀.inpos_S1_p0 Shapes1.Facts₀.shapeCasts_S16_S16 _ rfl) _ rfl); iexact HT7
  isplitl [HT8]
  · iapply (rest_to d L cF hcF ev q 2 ⟨16 * g.val + 1 + 1 + 1 + 1 + 1 + 1 + 1 + 1, _⟩ _ _ (word_eq d L cF 2 g.val (k1_off81 g) (K1.Facts₀.k1_off81_inb g) (16 * g.val + 128) rfl hb2 8 Shapes1.Facts₀.slices_S16_o8_S1 Shapes1.Facts₀.inpos_S1_p0 Shapes1.Facts₀.shapeCasts_S16_S16 _ rfl) _ rfl); iexact HT8
  isplitl [HT9]
  · iapply (rest_to d L cF hcF ev q 2 ⟨16 * g.val + 1 + 1 + 1 + 1 + 1 + 1 + 1 + 1 + 1, _⟩ _ _ (word_eq d L cF 2 g.val (k1_off81 g) (K1.Facts₀.k1_off81_inb g) (16 * g.val + 128) rfl hb2 9 Shapes1.Facts₀.slices_S16_o9_S1 Shapes1.Facts₀.inpos_S1_p0 Shapes1.Facts₀.shapeCasts_S16_S16 _ rfl) _ rfl); iexact HT9
  isplitl [HT10]
  · iapply (rest_to d L cF hcF ev q 2 ⟨16 * g.val + 1 + 1 + 1 + 1 + 1 + 1 + 1 + 1 + 1 + 1, _⟩ _ _ (word_eq d L cF 2 g.val (k1_off81 g) (K1.Facts₀.k1_off81_inb g) (16 * g.val + 128) rfl hb2 10 Shapes1.Facts₀.slices_S16_o10_S1 Shapes1.Facts₀.inpos_S1_p0 Shapes1.Facts₀.shapeCasts_S16_S16 _ rfl) _ rfl); iexact HT10
  isplitl [HT11]
  · iapply (rest_to d L cF hcF ev q 2 ⟨16 * g.val + 1 + 1 + 1 + 1 + 1 + 1 + 1 + 1 + 1 + 1 + 1, _⟩ _ _ (word_eq d L cF 2 g.val (k1_off81 g) (K1.Facts₀.k1_off81_inb g) (16 * g.val + 128) rfl hb2 11 Shapes1.Facts₀.slices_S16_o11_S1 Shapes1.Facts₀.inpos_S1_p0 Shapes1.Facts₀.shapeCasts_S16_S16 _ rfl) _ rfl); iexact HT11
  isplitl [HT12]
  · iapply (rest_to d L cF hcF ev q 2 ⟨16 * g.val + 1 + 1 + 1 + 1 + 1 + 1 + 1 + 1 + 1 + 1 + 1 + 1, _⟩ _ _ (word_eq d L cF 2 g.val (k1_off81 g) (K1.Facts₀.k1_off81_inb g) (16 * g.val + 128) rfl hb2 12 Shapes1.Facts₀.slices_S16_o12_S1 Shapes1.Facts₀.inpos_S1_p0 Shapes1.Facts₀.shapeCasts_S16_S16 _ rfl) _ rfl); iexact HT12
  isplitl [HT13]
  · iapply (rest_to d L cF hcF ev q 2 ⟨16 * g.val + 1 + 1 + 1 + 1 + 1 + 1 + 1 + 1 + 1 + 1 + 1 + 1 + 1, _⟩ _ _ (word_eq d L cF 2 g.val (k1_off81 g) (K1.Facts₀.k1_off81_inb g) (16 * g.val + 128) rfl hb2 13 Shapes1.Facts₀.slices_S16_o13_S1 Shapes1.Facts₀.inpos_S1_p0 Shapes1.Facts₀.shapeCasts_S16_S16 _ rfl) _ rfl); iexact HT13
  isplitl [HT14]
  · iapply (rest_to d L cF hcF ev q 2 ⟨16 * g.val + 1 + 1 + 1 + 1 + 1 + 1 + 1 + 1 + 1 + 1 + 1 + 1 + 1 + 1, _⟩ _ _ (word_eq d L cF 2 g.val (k1_off81 g) (K1.Facts₀.k1_off81_inb g) (16 * g.val + 128) rfl hb2 14 Shapes1.Facts₀.slices_S16_o14_S1 Shapes1.Facts₀.inpos_S1_p0 Shapes1.Facts₀.shapeCasts_S16_S16 _ rfl) _ rfl); iexact HT14
  isplitl [HT15]
  · iapply (rest_to d L cF hcF ev q 2 ⟨16 * g.val + 1 + 1 + 1 + 1 + 1 + 1 + 1 + 1 + 1 + 1 + 1 + 1 + 1 + 1 + 1, _⟩ _ _ (word_eq d L cF 2 g.val (k1_off81 g) (K1.Facts₀.k1_off81_inb g) (16 * g.val + 128) rfl hb2 15 Shapes1.Facts₀.slices_S16_o15_S1 Shapes1.Facts₀.inpos_S1_p0 Shapes1.Facts₀.shapeCasts_S16_S16 _ rfl) _ rfl); iexact HT15
  iempintro

end Cert.Proof.KTileVIssue2

end
-- ==== Proof.KTileVIssue3.lean ====
/-
  Chunk 3's issue trip. Trip `g` of the chunk's issue loop loads the 16 centre words of elements `16g … 16g + 15`
  of the chunk and starts, for each, the copy of the table row it names into row `16g + l` of the gathered-rows
  scratch, all on the one gather semaphore: transfers `16g … 16g + 15` of the chunk's batch. Each word is below
  the table's extent (the index scratch holds the subcore's centre words); each copy's delivery is the batch's.
-/
import proofs.«218857_g62938450756068_cont_9to1c4b_813_41_alg».proof.Proof.KTileVWord

set_option maxRecDepth 100000

noncomputable section

namespace Cert.Proof.KTileVIssue3

open Cert.Kernel Cert.Kernel.Gen Cert.Proof.KernelBase Cert.Proof.KTileVDefs Cert.Proof.KTileVMem Cert.Proof.KTileVInv
open Cert.Proof.KTileVIssueLem Cert.Proof.KTileVWord

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (L : grid1.Coords)
variable (cF : Buf (Elt F) (l0 d L)) (hcF : ∀ x : S512.Idx, ((cF : S512.Idx → BitVec 32) x).toNat < 1000000)
variable (ev : Buf (Elt F) (lev d L)) (q : PosShare TreeShare)

set_option maxHeartbeats 0 in
theorem issue_step3 [∀ e, Nonempty (Elt F e)] (v2 : BitVec 32) (g : Fin k1_t10_loop.trips) (acc : Unit) :
    issueAt d L cF hcF ev q 3 g.val acc
      ⊢ wp frame (wpE (defs₀ (F := F)) 𝒱₀ (thr d L) none) Set.univ
          (k1_t10_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 v2 g acc)
          (issueAt d L cF hcF ev q 3 (g.val + 1)) := by
  have hg : g.val < 4 := g.isLt
  have hb3 : 16 * g.val + 192 = 64 * (3 : Fin 8).val + 16 * g.val := by show 16 * g.val + 192 = 64 * 3 + 16 * g.val; omega
  unfold issueAt
  rw [show 16 * (g.val + 1) = 16 * g.val + 1 + 1 + 1 + 1 + 1 + 1 + 1 + 1 + 1 + 1 + 1 + 1 + 1 + 1 + 1 + 1 from by omega]
  rw [Ring.bigSep_rangeSet_head (Φ := rowOwn d L) (lo := 16 * g.val) (by omega) (by omega),
    Ring.bigSep_rangeSet_head (Φ := rowOwn d L) (lo := 16 * g.val + 1) (by omega) (by omega),
    Ring.bigSep_rangeSet_head (Φ := rowOwn d L) (lo := 16 * g.val + 1 + 1) (by omega) (by omega),
    Ring.bigSep_rangeSet_head (Φ := rowOwn d L) (lo := 16 * g.val + 1 + 1 + 1) (by omega) (by omega),
    Ring.bigSep_rangeSet_head (Φ := rowOwn d L) (lo := 16 * g.val + 1 + 1 + 1 + 1) (by omega) (by omega),
    Ring.bigSep_rangeSet_head (Φ := rowOwn d L) (lo := 16 * g.val + 1 + 1 + 1 + 1 + 1) (by omega) (by omega),
    Ring.bigSep_rangeSet_head (Φ := rowOwn d L) (lo := 16 * g.val + 1 + 1 + 1 + 1 + 1 + 1) (by omega) (by omega),
    Ring.bigSep_rangeSet_head (Φ := rowOwn d L) (lo := 16 * g.val + 1 + 1 + 1 + 1 + 1 + 1 + 1) (by omega) (by omega),
    Ring.bigSep_rangeSet_head (Φ := rowOwn d L) (lo := 16 * g.val + 1 + 1 + 1 + 1 + 1 + 1 + 1 + 1) (by omega) (by omega),
    Ring.bigSep_rangeSet_head (Φ := rowOwn d L) (lo := 16 * g.val + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1 + 1) (by omega) (by omega),
    Ring.bigSep_rangeSet_head (Φ := tok d L ev q) (lo := 16 * g.val) (by omega) (by omega),
    Ring.bigSep_rangeSet_head (Φ := tok d L ev q) (lo := 16 * g.val + 1) (by omega) (by omega),
    Ring.bigSep_rangeSet_head (Φ := tok d L ev q) (lo := 16 * g.val + 1 + 1) (by omega) (by omega),
    Ring.bigSep_rangeSet_head (Φ := tok d L ev q) (lo := 16 * g.val + 1 + 1 + 1) (by omega) (by omega),
    Ring.bigSep_rangeSet_head (Φ := tok d L ev q) (lo := 16 * g.val + 1 + 1 + 1 + 1) (by omega) (by omega),
    Ring.bigSep_rangeSet_head (Φ := tok d L ev q) (lo := 16 * g.val + 1 + 1 + 1 + 1 + 1) (by omega) (by omega),
    Ring.bigSep_rangeSet_head (Φ := tok d L ev q) (lo := 16 * g.val + 1 + 1 + 1 + 1 + 1 + 1) (by omega) (by omega),
    Ring.bigSep_rangeSet_head (Φ := tok d L ev q) (lo := 16 * g.val + 1 + 1 + 1 + 1 + 1 + 1 + 1) (by omega) (by omega),
    Ring.bigSep_rangeSet_head (Φ := tok d L ev q) (lo := 16 * g.val + 1 + 1 + 1 + 1 + 1 + 1 + 1 + 1) (by omega) (by omega),
    Ring.bigSep_rangeSet_head (Φ := tok d L ev q) (lo := 16 * g.val + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1 + 1) (by omega) (by omega)]
  rw [Ring.bigSep_rangeSet_split (Φ := tokRest d L cF hcF ev q 3) (a := 0) (b := 16 * g.val) (d := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 3) (lo := 16 * g.val + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_empty (Φ := tokRest d L cF hcF ev q 3) (lo := 16 * g.val + 1 + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (le_refl _)]
  iintro ⟨HB, Hc, ⟨HR0, HR1, HR2, HR3, HR4, HR5, HR6, HR7, HR8, HR9, HR10, HR11, HR12, HR13, HR14, HR15, HRs⟩, ⟨HT0, HT1, HT2, HT3, HT4, HT5, HT6, HT7, HT8, HT9, HT10, HT11, HT12, HT13, HT14, HT15, HTs⟩, Hrest⟩
  ihave HR0' := (rowOwn_to d L ⟨16 * g.val, _⟩ (k1_off123 g 0#32) (K1.Facts₀.k1_off123_inb g 0) rfl) $$ HR0
  icases HR0' with ⟨%f0, HR0⟩
  ihave HR1' := (rowOwn_to d L ⟨16 * g.val + 1, _⟩ (k1_off125 g 1#32) (K1.Facts₀.k1_off125_inb g 0) rfl) $$ HR1
  icases HR1' with ⟨%f1, HR1⟩
  ihave HR2' := (rowOwn_to d L ⟨16 * g.val + 1 + 1, _⟩ (k1_off127 g 2#32) (K1.Facts₀.k1_off127_inb g 0) rfl) $$ HR2
  icases HR2' with ⟨%f2, HR2⟩
  ihave HR3' := (rowOwn_to d L ⟨16 * g.val + 1 + 1 + 1, _⟩ (k1_off129 g 3#32) (K1.Facts₀.k1_off129_inb g 0) rfl) $$ HR3
  icases HR3' with ⟨%f3, HR3⟩
  ihave HR4' := (rowOwn_to d L ⟨16 * g.val + 1 + 1 + 1 + 1, _⟩ (k1_off131 g 4#32) (K1.Facts₀.k1_off131_inb g 0) rfl) $$ HR4
  icases HR4' with ⟨%f4, HR4⟩
  ihave HR5' := (rowOwn_to d L ⟨16 * g.val + 1 + 1 + 1 + 1 + 1, _⟩ (k1_off133 g 5#32) (K1.Facts₀.k1_off133_inb g 0) rfl) $$ HR5
  icases HR5' with ⟨%f5, HR5⟩
  ihave HR6' := (rowOwn_to d L ⟨16 * g.val + 1 + 1 + 1 + 1 + 1 + 1, _⟩ (k1_off135 g 6#32) (K1.Facts₀.k1_off135_inb g 0) rfl) $$ HR6
  icases HR6' with ⟨%f6, HR6⟩
  ihave HR7' := (rowOwn_to d L ⟨16 * g.val + 1 + 1 + 1 + 1 + 1 + 1 + 1, _⟩ (k1_off137 g 7#32) (K1.Facts₀.k1_off137_inb g 0) rfl) $$ HR7
  icases HR7' with ⟨%f7, HR7⟩
  ihave HR8' := (rowOwn_to d L ⟨16 * g.val + 1 + 1 + 1 + 1 + 1 + 1 + 1 + 1, _⟩ (k1_off139 g 8#32) (K1.Facts₀.k1_off139_inb g 0) rfl) $$ HR8
  icases HR8' with ⟨%f8, HR8⟩
  ihave HR9' := (rowOwn_to d L ⟨16 * g.val + 1 + 1 + 1 + 1 + 1 + 1 + 1 + 1 + 1, _⟩ (k1_off141 g 9#32) (K1.Facts₀.k1_off141_inb g 0) rfl) $$ HR9
  icases HR9' with ⟨%f9, HR9⟩
  ihave HR10' := (rowOwn_to d L ⟨16 * g.val + 1 + 1 + 1 + 1 + 1 + 1 + 1 + 1 + 1 + 1, _⟩ (k1_off143 g 10#32) (K1.Facts₀.k1_off143_inb g 0) rfl) $$ HR10
  icases HR10' with ⟨%f10, HR10⟩
  ihave HR11' := (rowOwn_to d L ⟨16 * g.val + 1 + 1 + 1 + 1 + 1 + 1 + 1 + 1 + 1 + 1 + 1, _⟩ (k1_off145 g 11#32) (K1.Facts₀.k1_off145_inb g 0) rfl) $$ HR11
  icases HR11' with ⟨%f11, HR11⟩
  ihave HR12' := (rowOwn_to d L ⟨16 * g.val + 1 + 1 + 1 + 1 + 1 + 1 + 1 + 1 + 1 + 1 + 1 + 1, _⟩ (k1_off147 g 12#32) (K1.Facts₀.k1_off147_inb g 0) rfl) $$ HR12
  icases HR12' with ⟨%f12, HR12⟩
  ihave HR13' := (rowOwn_to d L ⟨16 * g.val + 1 + 1 + 1 + 1 + 1 + 1 + 1 + 1 + 1 + 1 + 1 + 1 + 1, _⟩ (k1_off149 g 13#32) (K1.Facts₀.k1_off149_inb g 0) rfl) $$ HR13
  icases HR13' with ⟨%f13, HR13⟩
  ihave HR14' := (rowOwn_to d L ⟨16 * g.val + 1 + 1 + 1 + 1 + 1 + 1 + 1 + 1 + 1 + 1 + 1 + 1 + 1 + 1, _⟩ (k1_off151 g 14#32) (K1.Facts₀.k1_off151_inb g 0) rfl) $$ HR14
  icases HR14' with ⟨%f14, HR14⟩
  ihave HR15' := (rowOwn_to d L ⟨16 * g.val + 1 + 1 + 1 + 1 + 1 + 1 + 1 + 1 + 1 + 1 + 1 + 1 + 1 + 1 + 1, _⟩ (k1_off153 g) (K1.Facts₀.k1_off153_inb g) rfl) $$ HR15
  icases HR15' with ⟨%f15, HR15⟩
  sl_unfold [k1_t10_body]
  sl_exec (disch := first
    | omega
    | exact TileVRect.row_inb _ (hcF _)
    | exact deliver d L cF hcF ev q 3 _ _ _ rfl _ _ (word_eq d L cF 3 g.val _ _ (16 * g.val + 192) rfl hb3 _ (by decide) (by decide) _ _ rfl) _ _ rfl _ rfl)
  sl_step
  isplitl [HB]; · iexact HB
  isplitl [Hc]; · iexact Hc
  isplitl [HRs]; · iexact HRs
  isplitl [HTs]; · iexact HTs
  isplitl [Hrest]; · iexact Hrest
  isplitl [HT0]
  · iapply (rest_to d L cF hcF ev q 3 ⟨16 * g.val, _⟩ _ _ (word_eq d L cF 3 g.val (k1_off120 g) (K1.Facts₀.k1_off120_inb g) (16 * g.val + 192) rfl hb3 0 Shapes1.Facts₀.slices_S16_o0_S1 Shapes1.Facts₀.inpos_S1_p0 Shapes1.Facts₀.shapeCasts_S16_S16 _ rfl) _ rfl); iexact HT0
  isplitl [HT1]
  · iapply (rest_to d L cF hcF ev q 3 ⟨16 * g.val + 1, _⟩ _ _ (word_eq d L cF 3 g.val (k1_off120 g) (K1.Facts₀.k1_off120_inb g) (16 * g.val + 192) rfl hb3 1 Shapes1.Facts₀.slices_S16_o1_S1 Shapes1.Facts₀.inpos_S1_p0 Shapes1.Facts₀.shapeCasts_S16_S16 _ rfl) _ rfl); iexact HT1
  isplitl [HT2]
  · iapply (rest_to d L cF hcF ev q 3 ⟨16 * g.val + 1 + 1, _⟩ _ _ (word_eq d L cF 3 g.val (k1_off120 g) (K1.Facts₀.k1_off120_inb g) (16 * g.val + 192) rfl hb3 2 Shapes1.Facts₀.slices_S16_o2_S1 Shapes1.Facts₀.inpos_S1_p0 Shapes1.Facts₀.shapeCasts_S16_S16 _ rfl) _ rfl); iexact HT2
  isplitl [HT3]
  · iapply (rest_to d L cF hcF ev q 3 ⟨16 * g.val + 1 + 1 + 1, _⟩ _ _ (word_eq d L cF 3 g.val (k1_off120 g) (K1.Facts₀.k1_off120_inb g) (16 * g.val + 192) rfl hb3 3 Shapes1.Facts₀.slices_S16_o3_S1 Shapes1.Facts₀.inpos_S1_p0 Shapes1.Facts₀.shapeCasts_S16_S16 _ rfl) _ rfl); iexact HT3
  isplitl [HT4]
  · iapply (rest_to d L cF hcF ev q 3 ⟨16 * g.val + 1 + 1 + 1 + 1, _⟩ _ _ (word_eq d L cF 3 g.val (k1_off120 g) (K1.Facts₀.k1_off120_inb g) (16 * g.val + 192) rfl hb3 4 Shapes1.Facts₀.slices_S16_o4_S1 Shapes1.Facts₀.inpos_S1_p0 Shapes1.Facts₀.shapeCasts_S16_S16 _ rfl) _ rfl); iexact HT4
  isplitl [HT5]
  · iapply (rest_to d L cF hcF ev q 3 ⟨16 * g.val + 1 + 1 + 1 + 1 + 1, _⟩ _ _ (word_eq d L cF 3 g.val (k1_off120 g) (K1.Facts₀.k1_off120_inb g) (16 * g.val + 192) rfl hb3 5 Shapes1.Facts₀.slices_S16_o5_S1 Shapes1.Facts₀.inpos_S1_p0 Shapes1.Facts₀.shapeCasts_S16_S16 _ rfl) _ rfl); iexact HT5
  isplitl [HT6]
  · iapply (rest_to d L cF hcF ev q 3 ⟨16 * g.val + 1 + 1 + 1 + 1 + 1 + 1, _⟩ _ _ (word_eq d L cF 3 g.val (k1_off120 g) (K1.Facts₀.k1_off120_inb g) (16 * g.val + 192) rfl hb3 6 Shapes1.Facts₀.slices_S16_o6_S1 Shapes1.Facts₀.inpos_S1_p0 Shapes1.Facts₀.shapeCasts_S16_S16 _ rfl) _ rfl); iexact HT6
  isplitl [HT7]
  · iapply (rest_to d L cF hcF ev q 3 ⟨16 * g.val + 1 + 1 + 1 + 1 + 1 + 1 + 1, _⟩ _ _ (word_eq d L cF 3 g.val (k1_off120 g) (K1.Facts₀.k1_off120_inb g) (16 * g.val + 192) rfl hb3 7 Shapes1.Facts₀.slices_S16_o7_S1 Shapes1.Facts₀.inpos_S1_p0 Shapes1.Facts₀.shapeCasts_S16_S16 _ rfl) _ rfl); iexact HT7
  isplitl [HT8]
  · iapply (rest_to d L cF hcF ev q 3 ⟨16 * g.val + 1 + 1 + 1 + 1 + 1 + 1 + 1 + 1, _⟩ _ _ (word_eq d L cF 3 g.val (k1_off120 g) (K1.Facts₀.k1_off120_inb g) (16 * g.val + 192) rfl hb3 8 Shapes1.Facts₀.slices_S16_o8_S1 Shapes1.Facts₀.inpos_S1_p0 Shapes1.Facts₀.shapeCasts_S16_S16 _ rfl) _ rfl); iexact HT8
  isplitl [HT9]
  · iapply (rest_to d L cF hcF ev q 3 ⟨16 * g.val + 1 + 1 + 1 + 1 + 1 + 1 + 1 + 1 + 1, _⟩ _ _ (word_eq d L cF 3 g.val (k1_off120 g) (K1.Facts₀.k1_off120_inb g) (16 * g.val + 192) rfl hb3 9 Shapes1.Facts₀.slices_S16_o9_S1 Shapes1.Facts₀.inpos_S1_p0 Shapes1.Facts₀.shapeCasts_S16_S16 _ rfl) _ rfl); iexact HT9
  isplitl [HT10]
  · iapply (rest_to d L cF hcF ev q 3 ⟨16 * g.val + 1 + 1 + 1 + 1 + 1 + 1 + 1 + 1 + 1 + 1, _⟩ _ _ (word_eq d L cF 3 g.val (k1_off120 g) (K1.Facts₀.k1_off120_inb g) (16 * g.val + 192) rfl hb3 10 Shapes1.Facts₀.slices_S16_o10_S1 Shapes1.Facts₀.inpos_S1_p0 Shapes1.Facts₀.shapeCasts_S16_S16 _ rfl) _ rfl); iexact HT10
  isplitl [HT11]
  · iapply (rest_to d L cF hcF ev q 3 ⟨16 * g.val + 1 + 1 + 1 + 1 + 1 + 1 + 1 + 1 + 1 + 1 + 1, _⟩ _ _ (word_eq d L cF 3 g.val (k1_off120 g) (K1.Facts₀.k1_off120_inb g) (16 * g.val + 192) rfl hb3 11 Shapes1.Facts₀.slices_S16_o11_S1 Shapes1.Facts₀.inpos_S1_p0 Shapes1.Facts₀.shapeCasts_S16_S16 _ rfl) _ rfl); iexact HT11
  isplitl [HT12]
  · iapply (rest_to d L cF hcF ev q 3 ⟨16 * g.val + 1 + 1 + 1 + 1 + 1 + 1 + 1 + 1 + 1 + 1 + 1 + 1, _⟩ _ _ (word_eq d L cF 3 g.val (k1_off120 g) (K1.Facts₀.k1_off120_inb g) (16 * g.val + 192) rfl hb3 12 Shapes1.Facts₀.slices_S16_o12_S1 Shapes1.Facts₀.inpos_S1_p0 Shapes1.Facts₀.shapeCasts_S16_S16 _ rfl) _ rfl); iexact HT12
  isplitl [HT13]
  · iapply (rest_to d L cF hcF ev q 3 ⟨16 * g.val + 1 + 1 + 1 + 1 + 1 + 1 + 1 + 1 + 1 + 1 + 1 + 1 + 1, _⟩ _ _ (word_eq d L cF 3 g.val (k1_off120 g) (K1.Facts₀.k1_off120_inb g) (16 * g.val + 192) rfl hb3 13 Shapes1.Facts₀.slices_S16_o13_S1 Shapes1.Facts₀.inpos_S1_p0 Shapes1.Facts₀.shapeCasts_S16_S16 _ rfl) _ rfl); iexact HT13
  isplitl [HT14]
  · iapply (rest_to d L cF hcF ev q 3 ⟨16 * g.val + 1 + 1 + 1 + 1 + 1 + 1 + 1 + 1 + 1 + 1 + 1 + 1 + 1 + 1, _⟩ _ _ (word_eq d L cF 3 g.val (k1_off120 g) (K1.Facts₀.k1_off120_inb g) (16 * g.val + 192) rfl hb3 14 Shapes1.Facts₀.slices_S16_o14_S1 Shapes1.Facts₀.inpos_S1_p0 Shapes1.Facts₀.shapeCasts_S16_S16 _ rfl) _ rfl); iexact HT14
  isplitl [HT15]
  · iapply (rest_to d L cF hcF ev q 3 ⟨16 * g.val + 1 + 1 + 1 + 1 + 1 + 1 + 1 + 1 + 1 + 1 + 1 + 1 + 1 + 1 + 1, _⟩ _ _ (word_eq d L cF 3 g.val (k1_off120 g) (K1.Facts₀.k1_off120_inb g) (16 * g.val + 192) rfl hb3 15 Shapes1.Facts₀.slices_S16_o15_S1 Shapes1.Facts₀.inpos_S1_p0 Shapes1.Facts₀.shapeCasts_S16_S16 _ rfl) _ rfl); iexact HT15
  iempintro

end Cert.Proof.KTileVIssue3

end
-- ==== Proof.KTileVIssue4.lean ====
/-
  Chunk 4's issue trip. Trip `g` of the chunk's issue loop loads the 16 centre words of elements `16g … 16g + 15`
  of the chunk and starts, for each, the copy of the table row it names into row `16g + l` of the gathered-rows
  scratch, all on the one gather semaphore: transfers `16g … 16g + 15` of the chunk's batch. Each word is below
  the table's extent (the index scratch holds the subcore's centre words); each copy's delivery is the batch's.
-/
import proofs.«218857_g62938450756068_cont_9to1c4b_813_41_alg».proof.Proof.KTileVWord

set_option maxRecDepth 100000

noncomputable section

namespace Cert.Proof.KTileVIssue4

open Cert.Kernel Cert.Kernel.Gen Cert.Proof.KernelBase Cert.Proof.KTileVDefs Cert.Proof.KTileVMem Cert.Proof.KTileVInv
open Cert.Proof.KTileVIssueLem Cert.Proof.KTileVWord

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (L : grid1.Coords)
variable (cF : Buf (Elt F) (l0 d L)) (hcF : ∀ x : S512.Idx, ((cF : S512.Idx → BitVec 32) x).toNat < 1000000)
variable (ev : Buf (Elt F) (lev d L)) (q : PosShare TreeShare)

set_option maxHeartbeats 0 in
theorem issue_step4 [∀ e, Nonempty (Elt F e)] (v2 : BitVec 32) (g : Fin k1_t13_loop.trips) (acc : Unit) :
    issueAt d L cF hcF ev q 4 g.val acc
      ⊢ wp frame (wpE (defs₀ (F := F)) 𝒱₀ (thr d L) none) Set.univ
          (k1_t13_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 v2 g acc)
          (issueAt d L cF hcF ev q 4 (g.val + 1)) := by
  have hg : g.val < 4 := g.isLt
  have hb4 : 16 * g.val + 256 = 64 * (4 : Fin 8).val + 16 * g.val := by show 16 * g.val + 256 = 64 * 4 + 16 * g.val; omega
  unfold issueAt
  rw [show 16 * (g.val + 1) = 16 * g.val + 1 + 1 + 1 + 1 + 1 + 1 + 1 + 1 + 1 + 1 + 1 + 1 + 1 + 1 + 1 + 1 from by omega]
  rw [Ring.bigSep_rangeSet_head (Φ := rowOwn d L) (lo := 16 * g.val) (by omega) (by omega),
    Ring.bigSep_rangeSet_head (Φ := rowOwn d L) (lo := 16 * g.val + 1) (by omega) (by omega),
    Ring.bigSep_rangeSet_head (Φ := rowOwn d L) (lo := 16 * g.val + 1 + 1) (by omega) (by omega),
    Ring.bigSep_rangeSet_head (Φ := rowOwn d L) (lo := 16 * g.val + 1 + 1 + 1) (by omega) (by omega),
    Ring.bigSep_rangeSet_head (Φ := rowOwn d L) (lo := 16 * g.val + 1 + 1 + 1 + 1) (by omega) (by omega),
    Ring.bigSep_rangeSet_head (Φ := rowOwn d L) (lo := 16 * g.val + 1 + 1 + 1 + 1 + 1) (by omega) (by omega),
    Ring.bigSep_rangeSet_head (Φ := rowOwn d L) (lo := 16 * g.val + 1 + 1 + 1 + 1 + 1 + 1) (by omega) (by omega),
    Ring.bigSep_rangeSet_head (Φ := rowOwn d L) (lo := 16 * g.val + 1 + 1 + 1 + 1 + 1 + 1 + 1) (by omega) (by omega),
    Ring.bigSep_rangeSet_head (Φ := rowOwn d L) (lo := 16 * g.val + 1 + 1 + 1 + 1 + 1 + 1 + 1 + 1) (by omega) (by omega),
    Ring.bigSep_rangeSet_head (Φ := rowOwn d L) (lo := 16 * g.val + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1 + 1) (by omega) (by omega),
    Ring.bigSep_rangeSet_head (Φ := tok d L ev q) (lo := 16 * g.val) (by omega) (by omega),
    Ring.bigSep_rangeSet_head (Φ := tok d L ev q) (lo := 16 * g.val + 1) (by omega) (by omega),
    Ring.bigSep_rangeSet_head (Φ := tok d L ev q) (lo := 16 * g.val + 1 + 1) (by omega) (by omega),
    Ring.bigSep_rangeSet_head (Φ := tok d L ev q) (lo := 16 * g.val + 1 + 1 + 1) (by omega) (by omega),
    Ring.bigSep_rangeSet_head (Φ := tok d L ev q) (lo := 16 * g.val + 1 + 1 + 1 + 1) (by omega) (by omega),
    Ring.bigSep_rangeSet_head (Φ := tok d L ev q) (lo := 16 * g.val + 1 + 1 + 1 + 1 + 1) (by omega) (by omega),
    Ring.bigSep_rangeSet_head (Φ := tok d L ev q) (lo := 16 * g.val + 1 + 1 + 1 + 1 + 1 + 1) (by omega) (by omega),
    Ring.bigSep_rangeSet_head (Φ := tok d L ev q) (lo := 16 * g.val + 1 + 1 + 1 + 1 + 1 + 1 + 1) (by omega) (by omega),
    Ring.bigSep_rangeSet_head (Φ := tok d L ev q) (lo := 16 * g.val + 1 + 1 + 1 + 1 + 1 + 1 + 1 + 1) (by omega) (by omega),
    Ring.bigSep_rangeSet_head (Φ := tok d L ev q) (lo := 16 * g.val + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1 + 1) (by omega) (by omega)]
  rw [Ring.bigSep_rangeSet_split (Φ := tokRest d L cF hcF ev q 4) (a := 0) (b := 16 * g.val) (d := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 4) (lo := 16 * g.val + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_empty (Φ := tokRest d L cF hcF ev q 4) (lo := 16 * g.val + 1 + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (le_refl _)]
  iintro ⟨HB, Hc, ⟨HR0, HR1, HR2, HR3, HR4, HR5, HR6, HR7, HR8, HR9, HR10, HR11, HR12, HR13, HR14, HR15, HRs⟩, ⟨HT0, HT1, HT2, HT3, HT4, HT5, HT6, HT7, HT8, HT9, HT10, HT11, HT12, HT13, HT14, HT15, HTs⟩, Hrest⟩
  ihave HR0' := (rowOwn_to d L ⟨16 * g.val, _⟩ (k1_off162 g 0#32) (K1.Facts₀.k1_off162_inb g 0) rfl) $$ HR0
  icases HR0' with ⟨%f0, HR0⟩
  ihave HR1' := (rowOwn_to d L ⟨16 * g.val + 1, _⟩ (k1_off164 g 1#32) (K1.Facts₀.k1_off164_inb g 0) rfl) $$ HR1
  icases HR1' with ⟨%f1, HR1⟩
  ihave HR2' := (rowOwn_to d L ⟨16 * g.val + 1 + 1, _⟩ (k1_off166 g 2#32) (K1.Facts₀.k1_off166_inb g 0) rfl) $$ HR2
  icases HR2' with ⟨%f2, HR2⟩
  ihave HR3' := (rowOwn_to d L ⟨16 * g.val + 1 + 1 + 1, _⟩ (k1_off168 g 3#32) (K1.Facts₀.k1_off168_inb g 0) rfl) $$ HR3
  icases HR3' with ⟨%f3, HR3⟩
  ihave HR4' := (rowOwn_to d L ⟨16 * g.val + 1 + 1 + 1 + 1, _⟩ (k1_off170 g 4#32) (K1.Facts₀.k1_off170_inb g 0) rfl) $$ HR4
  icases HR4' with ⟨%f4, HR4⟩
  ihave HR5' := (rowOwn_to d L ⟨16 * g.val + 1 + 1 + 1 + 1 + 1, _⟩ (k1_off172 g 5#32) (K1.Facts₀.k1_off172_inb g 0) rfl) $$ HR5
  icases HR5' with ⟨%f5, HR5⟩
  ihave HR6' := (rowOwn_to d L ⟨16 * g.val + 1 + 1 + 1 + 1 + 1 + 1, _⟩ (k1_off174 g 6#32) (K1.Facts₀.k1_off174_inb g 0) rfl) $$ HR6
  icases HR6' with ⟨%f6, HR6⟩
  ihave HR7' := (rowOwn_to d L ⟨16 * g.val + 1 + 1 + 1 + 1 + 1 + 1 + 1, _⟩ (k1_off176 g 7#32) (K1.Facts₀.k1_off176_inb g 0) rfl) $$ HR7
  icases HR7' with ⟨%f7, HR7⟩
  ihave HR8' := (rowOwn_to d L ⟨16 * g.val + 1 + 1 + 1 + 1 + 1 + 1 + 1 + 1, _⟩ (k1_off178 g 8#32) (K1.Facts₀.k1_off178_inb g 0) rfl) $$ HR8
  icases HR8' with ⟨%f8, HR8⟩
  ihave HR9' := (rowOwn_to d L ⟨16 * g.val + 1 + 1 + 1 + 1 + 1 + 1 + 1 + 1 + 1, _⟩ (k1_off180 g 9#32) (K1.Facts₀.k1_off180_inb g 0) rfl) $$ HR9
  icases HR9' with ⟨%f9, HR9⟩
  ihave HR10' := (rowOwn_to d L ⟨16 * g.val + 1 + 1 + 1 + 1 + 1 + 1 + 1 + 1 + 1 + 1, _⟩ (k1_off182 g 10#32) (K1.Facts₀.k1_off182_inb g 0) rfl) $$ HR10
  icases HR10' with ⟨%f10, HR10⟩
  ihave HR11' := (rowOwn_to d L ⟨16 * g.val + 1 + 1 + 1 + 1 + 1 + 1 + 1 + 1 + 1 + 1 + 1, _⟩ (k1_off184 g 11#32) (K1.Facts₀.k1_off184_inb g 0) rfl) $$ HR11
  icases HR11' with ⟨%f11, HR11⟩
  ihave HR12' := (rowOwn_to d L ⟨16 * g.val + 1 + 1 + 1 + 1 + 1 + 1 + 1 + 1 + 1 + 1 + 1 + 1, _⟩ (k1_off186 g 12#32) (K1.Facts₀.k1_off186_inb g 0) rfl) $$ HR12
  icases HR12' with ⟨%f12, HR12⟩
  ihave HR13' := (rowOwn_to d L ⟨16 * g.val + 1 + 1 + 1 + 1 + 1 + 1 + 1 + 1 + 1 + 1 + 1 + 1 + 1, _⟩ (k1_off188 g 13#32) (K1.Facts₀.k1_off188_inb g 0) rfl) $$ HR13
  icases HR13' with ⟨%f13, HR13⟩
  ihave HR14' := (rowOwn_to d L ⟨16 * g.val + 1 + 1 + 1 + 1 + 1 + 1 + 1 + 1 + 1 + 1 + 1 + 1 + 1 + 1, _⟩ (k1_off190 g 14#32) (K1.Facts₀.k1_off190_inb g 0) rfl) $$ HR14
  icases HR14' with ⟨%f14, HR14⟩
  ihave HR15' := (rowOwn_to d L ⟨16 * g.val + 1 + 1 + 1 + 1 + 1 + 1 + 1 + 1 + 1 + 1 + 1 + 1 + 1 + 1 + 1, _⟩ (k1_off192 g) (K1.Facts₀.k1_off192_inb g) rfl) $$ HR15
  icases HR15' with ⟨%f15, HR15⟩
  sl_unfold [k1_t13_body]
  sl_exec (disch := first
    | omega
    | exact TileVRect.row_inb _ (hcF _)
    | exact deliver d L cF hcF ev q 4 _ _ _ rfl _ _ (word_eq d L cF 4 g.val _ _ (16 * g.val + 256) rfl hb4 _ (by decide) (by decide) _ _ rfl) _ _ rfl _ rfl)
  sl_step
  isplitl [HB]; · iexact HB
  isplitl [Hc]; · iexact Hc
  isplitl [HRs]; · iexact HRs
  isplitl [HTs]; · iexact HTs
  isplitl [Hrest]; · iexact Hrest
  isplitl [HT0]
  · iapply (rest_to d L cF hcF ev q 4 ⟨16 * g.val, _⟩ _ _ (word_eq d L cF 4 g.val (k1_off159 g) (K1.Facts₀.k1_off159_inb g) (16 * g.val + 256) rfl hb4 0 Shapes1.Facts₀.slices_S16_o0_S1 Shapes1.Facts₀.inpos_S1_p0 Shapes1.Facts₀.shapeCasts_S16_S16 _ rfl) _ rfl); iexact HT0
  isplitl [HT1]
  · iapply (rest_to d L cF hcF ev q 4 ⟨16 * g.val + 1, _⟩ _ _ (word_eq d L cF 4 g.val (k1_off159 g) (K1.Facts₀.k1_off159_inb g) (16 * g.val + 256) rfl hb4 1 Shapes1.Facts₀.slices_S16_o1_S1 Shapes1.Facts₀.inpos_S1_p0 Shapes1.Facts₀.shapeCasts_S16_S16 _ rfl) _ rfl); iexact HT1
  isplitl [HT2]
  · iapply (rest_to d L cF hcF ev q 4 ⟨16 * g.val + 1 + 1, _⟩ _ _ (word_eq d L cF 4 g.val (k1_off159 g) (K1.Facts₀.k1_off159_inb g) (16 * g.val + 256) rfl hb4 2 Shapes1.Facts₀.slices_S16_o2_S1 Shapes1.Facts₀.inpos_S1_p0 Shapes1.Facts₀.shapeCasts_S16_S16 _ rfl) _ rfl); iexact HT2
  isplitl [HT3]
  · iapply (rest_to d L cF hcF ev q 4 ⟨16 * g.val + 1 + 1 + 1, _⟩ _ _ (word_eq d L cF 4 g.val (k1_off159 g) (K1.Facts₀.k1_off159_inb g) (16 * g.val + 256) rfl hb4 3 Shapes1.Facts₀.slices_S16_o3_S1 Shapes1.Facts₀.inpos_S1_p0 Shapes1.Facts₀.shapeCasts_S16_S16 _ rfl) _ rfl); iexact HT3
  isplitl [HT4]
  · iapply (rest_to d L cF hcF ev q 4 ⟨16 * g.val + 1 + 1 + 1 + 1, _⟩ _ _ (word_eq d L cF 4 g.val (k1_off159 g) (K1.Facts₀.k1_off159_inb g) (16 * g.val + 256) rfl hb4 4 Shapes1.Facts₀.slices_S16_o4_S1 Shapes1.Facts₀.inpos_S1_p0 Shapes1.Facts₀.shapeCasts_S16_S16 _ rfl) _ rfl); iexact HT4
  isplitl [HT5]
  · iapply (rest_to d L cF hcF ev q 4 ⟨16 * g.val + 1 + 1 + 1 + 1 + 1, _⟩ _ _ (word_eq d L cF 4 g.val (k1_off159 g) (K1.Facts₀.k1_off159_inb g) (16 * g.val + 256) rfl hb4 5 Shapes1.Facts₀.slices_S16_o5_S1 Shapes1.Facts₀.inpos_S1_p0 Shapes1.Facts₀.shapeCasts_S16_S16 _ rfl) _ rfl); iexact HT5
  isplitl [HT6]
  · iapply (rest_to d L cF hcF ev q 4 ⟨16 * g.val + 1 + 1 + 1 + 1 + 1 + 1, _⟩ _ _ (word_eq d L cF 4 g.val (k1_off159 g) (K1.Facts₀.k1_off159_inb g) (16 * g.val + 256) rfl hb4 6 Shapes1.Facts₀.slices_S16_o6_S1 Shapes1.Facts₀.inpos_S1_p0 Shapes1.Facts₀.shapeCasts_S16_S16 _ rfl) _ rfl); iexact HT6
  isplitl [HT7]
  · iapply (rest_to d L cF hcF ev q 4 ⟨16 * g.val + 1 + 1 + 1 + 1 + 1 + 1 + 1, _⟩ _ _ (word_eq d L cF 4 g.val (k1_off159 g) (K1.Facts₀.k1_off159_inb g) (16 * g.val + 256) rfl hb4 7 Shapes1.Facts₀.slices_S16_o7_S1 Shapes1.Facts₀.inpos_S1_p0 Shapes1.Facts₀.shapeCasts_S16_S16 _ rfl) _ rfl); iexact HT7
  isplitl [HT8]
  · iapply (rest_to d L cF hcF ev q 4 ⟨16 * g.val + 1 + 1 + 1 + 1 + 1 + 1 + 1 + 1, _⟩ _ _ (word_eq d L cF 4 g.val (k1_off159 g) (K1.Facts₀.k1_off159_inb g) (16 * g.val + 256) rfl hb4 8 Shapes1.Facts₀.slices_S16_o8_S1 Shapes1.Facts₀.inpos_S1_p0 Shapes1.Facts₀.shapeCasts_S16_S16 _ rfl) _ rfl); iexact HT8
  isplitl [HT9]
  · iapply (rest_to d L cF hcF ev q 4 ⟨16 * g.val + 1 + 1 + 1 + 1 + 1 + 1 + 1 + 1 + 1, _⟩ _ _ (word_eq d L cF 4 g.val (k1_off159 g) (K1.Facts₀.k1_off159_inb g) (16 * g.val + 256) rfl hb4 9 Shapes1.Facts₀.slices_S16_o9_S1 Shapes1.Facts₀.inpos_S1_p0 Shapes1.Facts₀.shapeCasts_S16_S16 _ rfl) _ rfl); iexact HT9
  isplitl [HT10]
  · iapply (rest_to d L cF hcF ev q 4 ⟨16 * g.val + 1 + 1 + 1 + 1 + 1 + 1 + 1 + 1 + 1 + 1, _⟩ _ _ (word_eq d L cF 4 g.val (k1_off159 g) (K1.Facts₀.k1_off159_inb g) (16 * g.val + 256) rfl hb4 10 Shapes1.Facts₀.slices_S16_o10_S1 Shapes1.Facts₀.inpos_S1_p0 Shapes1.Facts₀.shapeCasts_S16_S16 _ rfl) _ rfl); iexact HT10
  isplitl [HT11]
  · iapply (rest_to d L cF hcF ev q 4 ⟨16 * g.val + 1 + 1 + 1 + 1 + 1 + 1 + 1 + 1 + 1 + 1 + 1, _⟩ _ _ (word_eq d L cF 4 g.val (k1_off159 g) (K1.Facts₀.k1_off159_inb g) (16 * g.val + 256) rfl hb4 11 Shapes1.Facts₀.slices_S16_o11_S1 Shapes1.Facts₀.inpos_S1_p0 Shapes1.Facts₀.shapeCasts_S16_S16 _ rfl) _ rfl); iexact HT11
  isplitl [HT12]
  · iapply (rest_to d L cF hcF ev q 4 ⟨16 * g.val + 1 + 1 + 1 + 1 + 1 + 1 + 1 + 1 + 1 + 1 + 1 + 1, _⟩ _ _ (word_eq d L cF 4 g.val (k1_off159 g) (K1.Facts₀.k1_off159_inb g) (16 * g.val + 256) rfl hb4 12 Shapes1.Facts₀.slices_S16_o12_S1 Shapes1.Facts₀.inpos_S1_p0 Shapes1.Facts₀.shapeCasts_S16_S16 _ rfl) _ rfl); iexact HT12
  isplitl [HT13]
  · iapply (rest_to d L cF hcF ev q 4 ⟨16 * g.val + 1 + 1 + 1 + 1 + 1 + 1 + 1 + 1 + 1 + 1 + 1 + 1 + 1, _⟩ _ _ (word_eq d L cF 4 g.val (k1_off159 g) (K1.Facts₀.k1_off159_inb g) (16 * g.val + 256) rfl hb4 13 Shapes1.Facts₀.slices_S16_o13_S1 Shapes1.Facts₀.inpos_S1_p0 Shapes1.Facts₀.shapeCasts_S16_S16 _ rfl) _ rfl); iexact HT13
  isplitl [HT14]
  · iapply (rest_to d L cF hcF ev q 4 ⟨16 * g.val + 1 + 1 + 1 + 1 + 1 + 1 + 1 + 1 + 1 + 1 + 1 + 1 + 1 + 1, _⟩ _ _ (word_eq d L cF 4 g.val (k1_off159 g) (K1.Facts₀.k1_off159_inb g) (16 * g.val + 256) rfl hb4 14 Shapes1.Facts₀.slices_S16_o14_S1 Shapes1.Facts₀.inpos_S1_p0 Shapes1.Facts₀.shapeCasts_S16_S16 _ rfl) _ rfl); iexact HT14
  isplitl [HT15]
  · iapply (rest_to d L cF hcF ev q 4 ⟨16 * g.val + 1 + 1 + 1 + 1 + 1 + 1 + 1 + 1 + 1 + 1 + 1 + 1 + 1 + 1 + 1, _⟩ _ _ (word_eq d L cF 4 g.val (k1_off159 g) (K1.Facts₀.k1_off159_inb g) (16 * g.val + 256) rfl hb4 15 Shapes1.Facts₀.slices_S16_o15_S1 Shapes1.Facts₀.inpos_S1_p0 Shapes1.Facts₀.shapeCasts_S16_S16 _ rfl) _ rfl); iexact HT15
  iempintro

end Cert.Proof.KTileVIssue4

end
-- ==== Proof.KTileVIssue5.lean ====
/-
  Chunk 5's issue trip. Trip `g` of the chunk's issue loop loads the 16 centre words of elements `16g … 16g + 15`
  of the chunk and starts, for each, the copy of the table row it names into row `16g + l` of the gathered-rows
  scratch, all on the one gather semaphore: transfers `16g … 16g + 15` of the chunk's batch. Each word is below
  the table's extent (the index scratch holds the subcore's centre words); each copy's delivery is the batch's.
-/
import proofs.«218857_g62938450756068_cont_9to1c4b_813_41_alg».proof.Proof.KTileVWord

set_option maxRecDepth 100000

noncomputable section

namespace Cert.Proof.KTileVIssue5

open Cert.Kernel Cert.Kernel.Gen Cert.Proof.KernelBase Cert.Proof.KTileVDefs Cert.Proof.KTileVMem Cert.Proof.KTileVInv
open Cert.Proof.KTileVIssueLem Cert.Proof.KTileVWord

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (L : grid1.Coords)
variable (cF : Buf (Elt F) (l0 d L)) (hcF : ∀ x : S512.Idx, ((cF : S512.Idx → BitVec 32) x).toNat < 1000000)
variable (ev : Buf (Elt F) (lev d L)) (q : PosShare TreeShare)

set_option maxHeartbeats 0 in
theorem issue_step5 [∀ e, Nonempty (Elt F e)] (v2 : BitVec 32) (g : Fin k1_t16_loop.trips) (acc : Unit) :
    issueAt d L cF hcF ev q 5 g.val acc
      ⊢ wp frame (wpE (defs₀ (F := F)) 𝒱₀ (thr d L) none) Set.univ
          (k1_t16_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 v2 g acc)
          (issueAt d L cF hcF ev q 5 (g.val + 1)) := by
  have hg : g.val < 4 := g.isLt
  have hb5 : 16 * g.val + 320 = 64 * (5 : Fin 8).val + 16 * g.val := by show 16 * g.val + 320 = 64 * 5 + 16 * g.val; omega
  unfold issueAt
  rw [show 16 * (g.val + 1) = 16 * g.val + 1 + 1 + 1 + 1 + 1 + 1 + 1 + 1 + 1 + 1 + 1 + 1 + 1 + 1 + 1 + 1 from by omega]
  rw [Ring.bigSep_rangeSet_head (Φ := rowOwn d L) (lo := 16 * g.val) (by omega) (by omega),
    Ring.bigSep_rangeSet_head (Φ := rowOwn d L) (lo := 16 * g.val + 1) (by omega) (by omega),
    Ring.bigSep_rangeSet_head (Φ := rowOwn d L) (lo := 16 * g.val + 1 + 1) (by omega) (by omega),
    Ring.bigSep_rangeSet_head (Φ := rowOwn d L) (lo := 16 * g.val + 1 + 1 + 1) (by omega) (by omega),
    Ring.bigSep_rangeSet_head (Φ := rowOwn d L) (lo := 16 * g.val + 1 + 1 + 1 + 1) (by omega) (by omega),
    Ring.bigSep_rangeSet_head (Φ := rowOwn d L) (lo := 16 * g.val + 1 + 1 + 1 + 1 + 1) (by omega) (by omega),
    Ring.bigSep_rangeSet_head (Φ := rowOwn d L) (lo := 16 * g.val + 1 + 1 + 1 + 1 + 1 + 1) (by omega) (by omega),
    Ring.bigSep_rangeSet_head (Φ := rowOwn d L) (lo := 16 * g.val + 1 + 1 + 1 + 1 + 1 + 1 + 1) (by omega) (by omega),
    Ring.bigSep_rangeSet_head (Φ := rowOwn d L) (lo := 16 * g.val + 1 + 1 + 1 + 1 + 1 + 1 + 1 + 1) (by omega) (by omega),
    Ring.bigSep_rangeSet_head (Φ := rowOwn d L) (lo := 16 * g.val + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1 + 1) (by omega) (by omega),
    Ring.bigSep_rangeSet_head (Φ := tok d L ev q) (lo := 16 * g.val) (by omega) (by omega),
    Ring.bigSep_rangeSet_head (Φ := tok d L ev q) (lo := 16 * g.val + 1) (by omega) (by omega),
    Ring.bigSep_rangeSet_head (Φ := tok d L ev q) (lo := 16 * g.val + 1 + 1) (by omega) (by omega),
    Ring.bigSep_rangeSet_head (Φ := tok d L ev q) (lo := 16 * g.val + 1 + 1 + 1) (by omega) (by omega),
    Ring.bigSep_rangeSet_head (Φ := tok d L ev q) (lo := 16 * g.val + 1 + 1 + 1 + 1) (by omega) (by omega),
    Ring.bigSep_rangeSet_head (Φ := tok d L ev q) (lo := 16 * g.val + 1 + 1 + 1 + 1 + 1) (by omega) (by omega),
    Ring.bigSep_rangeSet_head (Φ := tok d L ev q) (lo := 16 * g.val + 1 + 1 + 1 + 1 + 1 + 1) (by omega) (by omega),
    Ring.bigSep_rangeSet_head (Φ := tok d L ev q) (lo := 16 * g.val + 1 + 1 + 1 + 1 + 1 + 1 + 1) (by omega) (by omega),
    Ring.bigSep_rangeSet_head (Φ := tok d L ev q) (lo := 16 * g.val + 1 + 1 + 1 + 1 + 1 + 1 + 1 + 1) (by omega) (by omega),
    Ring.bigSep_rangeSet_head (Φ := tok d L ev q) (lo := 16 * g.val + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1 + 1) (by omega) (by omega)]
  rw [Ring.bigSep_rangeSet_split (Φ := tokRest d L cF hcF ev q 5) (a := 0) (b := 16 * g.val) (d := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 5) (lo := 16 * g.val + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_empty (Φ := tokRest d L cF hcF ev q 5) (lo := 16 * g.val + 1 + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (le_refl _)]
  iintro ⟨HB, Hc, ⟨HR0, HR1, HR2, HR3, HR4, HR5, HR6, HR7, HR8, HR9, HR10, HR11, HR12, HR13, HR14, HR15, HRs⟩, ⟨HT0, HT1, HT2, HT3, HT4, HT5, HT6, HT7, HT8, HT9, HT10, HT11, HT12, HT13, HT14, HT15, HTs⟩, Hrest⟩
  ihave HR0' := (rowOwn_to d L ⟨16 * g.val, _⟩ (k1_off201 g 0#32) (K1.Facts₀.k1_off201_inb g 0) rfl) $$ HR0
  icases HR0' with ⟨%f0, HR0⟩
  ihave HR1' := (rowOwn_to d L ⟨16 * g.val + 1, _⟩ (k1_off203 g 1#32) (K1.Facts₀.k1_off203_inb g 0) rfl) $$ HR1
  icases HR1' with ⟨%f1, HR1⟩
  ihave HR2' := (rowOwn_to d L ⟨16 * g.val + 1 + 1, _⟩ (k1_off205 g 2#32) (K1.Facts₀.k1_off205_inb g 0) rfl) $$ HR2
  icases HR2' with ⟨%f2, HR2⟩
  ihave HR3' := (rowOwn_to d L ⟨16 * g.val + 1 + 1 + 1, _⟩ (k1_off207 g 3#32) (K1.Facts₀.k1_off207_inb g 0) rfl) $$ HR3
  icases HR3' with ⟨%f3, HR3⟩
  ihave HR4' := (rowOwn_to d L ⟨16 * g.val + 1 + 1 + 1 + 1, _⟩ (k1_off209 g 4#32) (K1.Facts₀.k1_off209_inb g 0) rfl) $$ HR4
  icases HR4' with ⟨%f4, HR4⟩
  ihave HR5' := (rowOwn_to d L ⟨16 * g.val + 1 + 1 + 1 + 1 + 1, _⟩ (k1_off211 g 5#32) (K1.Facts₀.k1_off211_inb g 0) rfl) $$ HR5
  icases HR5' with ⟨%f5, HR5⟩
  ihave HR6' := (rowOwn_to d L ⟨16 * g.val + 1 + 1 + 1 + 1 + 1 + 1, _⟩ (k1_off213 g 6#32) (K1.Facts₀.k1_off213_inb g 0) rfl) $$ HR6
  icases HR6' with ⟨%f6, HR6⟩
  ihave HR7' := (rowOwn_to d L ⟨16 * g.val + 1 + 1 + 1 + 1 + 1 + 1 + 1, _⟩ (k1_off215 g 7#32) (K1.Facts₀.k1_off215_inb g 0) rfl) $$ HR7
  icases HR7' with ⟨%f7, HR7⟩
  ihave HR8' := (rowOwn_to d L ⟨16 * g.val + 1 + 1 + 1 + 1 + 1 + 1 + 1 + 1, _⟩ (k1_off217 g 8#32) (K1.Facts₀.k1_off217_inb g 0) rfl) $$ HR8
  icases HR8' with ⟨%f8, HR8⟩
  ihave HR9' := (rowOwn_to d L ⟨16 * g.val + 1 + 1 + 1 + 1 + 1 + 1 + 1 + 1 + 1, _⟩ (k1_off219 g 9#32) (K1.Facts₀.k1_off219_inb g 0) rfl) $$ HR9
  icases HR9' with ⟨%f9, HR9⟩
  ihave HR10' := (rowOwn_to d L ⟨16 * g.val + 1 + 1 + 1 + 1 + 1 + 1 + 1 + 1 + 1 + 1, _⟩ (k1_off221 g 10#32) (K1.Facts₀.k1_off221_inb g 0) rfl) $$ HR10
  icases HR10' with ⟨%f10, HR10⟩
  ihave HR11' := (rowOwn_to d L ⟨16 * g.val + 1 + 1 + 1 + 1 + 1 + 1 + 1 + 1 + 1 + 1 + 1, _⟩ (k1_off223 g 11#32) (K1.Facts₀.k1_off223_inb g 0) rfl) $$ HR11
  icases HR11' with ⟨%f11, HR11⟩
  ihave HR12' := (rowOwn_to d L ⟨16 * g.val + 1 + 1 + 1 + 1 + 1 + 1 + 1 + 1 + 1 + 1 + 1 + 1, _⟩ (k1_off225 g 12#32) (K1.Facts₀.k1_off225_inb g 0) rfl) $$ HR12
  icases HR12' with ⟨%f12, HR12⟩
  ihave HR13' := (rowOwn_to d L ⟨16 * g.val + 1 + 1 + 1 + 1 + 1 + 1 + 1 + 1 + 1 + 1 + 1 + 1 + 1, _⟩ (k1_off227 g 13#32) (K1.Facts₀.k1_off227_inb g 0) rfl) $$ HR13
  icases HR13' with ⟨%f13, HR13⟩
  ihave HR14' := (rowOwn_to d L ⟨16 * g.val + 1 + 1 + 1 + 1 + 1 + 1 + 1 + 1 + 1 + 1 + 1 + 1 + 1 + 1, _⟩ (k1_off229 g 14#32) (K1.Facts₀.k1_off229_inb g 0) rfl) $$ HR14
  icases HR14' with ⟨%f14, HR14⟩
  ihave HR15' := (rowOwn_to d L ⟨16 * g.val + 1 + 1 + 1 + 1 + 1 + 1 + 1 + 1 + 1 + 1 + 1 + 1 + 1 + 1 + 1, _⟩ (k1_off231 g) (K1.Facts₀.k1_off231_inb g) rfl) $$ HR15
  icases HR15' with ⟨%f15, HR15⟩
  sl_unfold [k1_t16_body]
  sl_exec (disch := first
    | omega
    | exact TileVRect.row_inb _ (hcF _)
    | exact deliver d L cF hcF ev q 5 _ _ _ rfl _ _ (word_eq d L cF 5 g.val _ _ (16 * g.val + 320) rfl hb5 _ (by decide) (by decide) _ _ rfl) _ _ rfl _ rfl)
  sl_step
  isplitl [HB]; · iexact HB
  isplitl [Hc]; · iexact Hc
  isplitl [HRs]; · iexact HRs
  isplitl [HTs]; · iexact HTs
  isplitl [Hrest]; · iexact Hrest
  isplitl [HT0]
  · iapply (rest_to d L cF hcF ev q 5 ⟨16 * g.val, _⟩ _ _ (word_eq d L cF 5 g.val (k1_off198 g) (K1.Facts₀.k1_off198_inb g) (16 * g.val + 320) rfl hb5 0 Shapes1.Facts₀.slices_S16_o0_S1 Shapes1.Facts₀.inpos_S1_p0 Shapes1.Facts₀.shapeCasts_S16_S16 _ rfl) _ rfl); iexact HT0
  isplitl [HT1]
  · iapply (rest_to d L cF hcF ev q 5 ⟨16 * g.val + 1, _⟩ _ _ (word_eq d L cF 5 g.val (k1_off198 g) (K1.Facts₀.k1_off198_inb g) (16 * g.val + 320) rfl hb5 1 Shapes1.Facts₀.slices_S16_o1_S1 Shapes1.Facts₀.inpos_S1_p0 Shapes1.Facts₀.shapeCasts_S16_S16 _ rfl) _ rfl); iexact HT1
  isplitl [HT2]
  · iapply (rest_to d L cF hcF ev q 5 ⟨16 * g.val + 1 + 1, _⟩ _ _ (word_eq d L cF 5 g.val (k1_off198 g) (K1.Facts₀.k1_off198_inb g) (16 * g.val + 320) rfl hb5 2 Shapes1.Facts₀.slices_S16_o2_S1 Shapes1.Facts₀.inpos_S1_p0 Shapes1.Facts₀.shapeCasts_S16_S16 _ rfl) _ rfl); iexact HT2
  isplitl [HT3]
  · iapply (rest_to d L cF hcF ev q 5 ⟨16 * g.val + 1 + 1 + 1, _⟩ _ _ (word_eq d L cF 5 g.val (k1_off198 g) (K1.Facts₀.k1_off198_inb g) (16 * g.val + 320) rfl hb5 3 Shapes1.Facts₀.slices_S16_o3_S1 Shapes1.Facts₀.inpos_S1_p0 Shapes1.Facts₀.shapeCasts_S16_S16 _ rfl) _ rfl); iexact HT3
  isplitl [HT4]
  · iapply (rest_to d L cF hcF ev q 5 ⟨16 * g.val + 1 + 1 + 1 + 1, _⟩ _ _ (word_eq d L cF 5 g.val (k1_off198 g) (K1.Facts₀.k1_off198_inb g) (16 * g.val + 320) rfl hb5 4 Shapes1.Facts₀.slices_S16_o4_S1 Shapes1.Facts₀.inpos_S1_p0 Shapes1.Facts₀.shapeCasts_S16_S16 _ rfl) _ rfl); iexact HT4
  isplitl [HT5]
  · iapply (rest_to d L cF hcF ev q 5 ⟨16 * g.val + 1 + 1 + 1 + 1 + 1, _⟩ _ _ (word_eq d L cF 5 g.val (k1_off198 g) (K1.Facts₀.k1_off198_inb g) (16 * g.val + 320) rfl hb5 5 Shapes1.Facts₀.slices_S16_o5_S1 Shapes1.Facts₀.inpos_S1_p0 Shapes1.Facts₀.shapeCasts_S16_S16 _ rfl) _ rfl); iexact HT5
  isplitl [HT6]
  · iapply (rest_to d L cF hcF ev q 5 ⟨16 * g.val + 1 + 1 + 1 + 1 + 1 + 1, _⟩ _ _ (word_eq d L cF 5 g.val (k1_off198 g) (K1.Facts₀.k1_off198_inb g) (16 * g.val + 320) rfl hb5 6 Shapes1.Facts₀.slices_S16_o6_S1 Shapes1.Facts₀.inpos_S1_p0 Shapes1.Facts₀.shapeCasts_S16_S16 _ rfl) _ rfl); iexact HT6
  isplitl [HT7]
  · iapply (rest_to d L cF hcF ev q 5 ⟨16 * g.val + 1 + 1 + 1 + 1 + 1 + 1 + 1, _⟩ _ _ (word_eq d L cF 5 g.val (k1_off198 g) (K1.Facts₀.k1_off198_inb g) (16 * g.val + 320) rfl hb5 7 Shapes1.Facts₀.slices_S16_o7_S1 Shapes1.Facts₀.inpos_S1_p0 Shapes1.Facts₀.shapeCasts_S16_S16 _ rfl) _ rfl); iexact HT7
  isplitl [HT8]
  · iapply (rest_to d L cF hcF ev q 5 ⟨16 * g.val + 1 + 1 + 1 + 1 + 1 + 1 + 1 + 1, _⟩ _ _ (word_eq d L cF 5 g.val (k1_off198 g) (K1.Facts₀.k1_off198_inb g) (16 * g.val + 320) rfl hb5 8 Shapes1.Facts₀.slices_S16_o8_S1 Shapes1.Facts₀.inpos_S1_p0 Shapes1.Facts₀.shapeCasts_S16_S16 _ rfl) _ rfl); iexact HT8
  isplitl [HT9]
  · iapply (rest_to d L cF hcF ev q 5 ⟨16 * g.val + 1 + 1 + 1 + 1 + 1 + 1 + 1 + 1 + 1, _⟩ _ _ (word_eq d L cF 5 g.val (k1_off198 g) (K1.Facts₀.k1_off198_inb g) (16 * g.val + 320) rfl hb5 9 Shapes1.Facts₀.slices_S16_o9_S1 Shapes1.Facts₀.inpos_S1_p0 Shapes1.Facts₀.shapeCasts_S16_S16 _ rfl) _ rfl); iexact HT9
  isplitl [HT10]
  · iapply (rest_to d L cF hcF ev q 5 ⟨16 * g.val + 1 + 1 + 1 + 1 + 1 + 1 + 1 + 1 + 1 + 1, _⟩ _ _ (word_eq d L cF 5 g.val (k1_off198 g) (K1.Facts₀.k1_off198_inb g) (16 * g.val + 320) rfl hb5 10 Shapes1.Facts₀.slices_S16_o10_S1 Shapes1.Facts₀.inpos_S1_p0 Shapes1.Facts₀.shapeCasts_S16_S16 _ rfl) _ rfl); iexact HT10
  isplitl [HT11]
  · iapply (rest_to d L cF hcF ev q 5 ⟨16 * g.val + 1 + 1 + 1 + 1 + 1 + 1 + 1 + 1 + 1 + 1 + 1, _⟩ _ _ (word_eq d L cF 5 g.val (k1_off198 g) (K1.Facts₀.k1_off198_inb g) (16 * g.val + 320) rfl hb5 11 Shapes1.Facts₀.slices_S16_o11_S1 Shapes1.Facts₀.inpos_S1_p0 Shapes1.Facts₀.shapeCasts_S16_S16 _ rfl) _ rfl); iexact HT11
  isplitl [HT12]
  · iapply (rest_to d L cF hcF ev q 5 ⟨16 * g.val + 1 + 1 + 1 + 1 + 1 + 1 + 1 + 1 + 1 + 1 + 1 + 1, _⟩ _ _ (word_eq d L cF 5 g.val (k1_off198 g) (K1.Facts₀.k1_off198_inb g) (16 * g.val + 320) rfl hb5 12 Shapes1.Facts₀.slices_S16_o12_S1 Shapes1.Facts₀.inpos_S1_p0 Shapes1.Facts₀.shapeCasts_S16_S16 _ rfl) _ rfl); iexact HT12
  isplitl [HT13]
  · iapply (rest_to d L cF hcF ev q 5 ⟨16 * g.val + 1 + 1 + 1 + 1 + 1 + 1 + 1 + 1 + 1 + 1 + 1 + 1 + 1, _⟩ _ _ (word_eq d L cF 5 g.val (k1_off198 g) (K1.Facts₀.k1_off198_inb g) (16 * g.val + 320) rfl hb5 13 Shapes1.Facts₀.slices_S16_o13_S1 Shapes1.Facts₀.inpos_S1_p0 Shapes1.Facts₀.shapeCasts_S16_S16 _ rfl) _ rfl); iexact HT13
  isplitl [HT14]
  · iapply (rest_to d L cF hcF ev q 5 ⟨16 * g.val + 1 + 1 + 1 + 1 + 1 + 1 + 1 + 1 + 1 + 1 + 1 + 1 + 1 + 1, _⟩ _ _ (word_eq d L cF 5 g.val (k1_off198 g) (K1.Facts₀.k1_off198_inb g) (16 * g.val + 320) rfl hb5 14 Shapes1.Facts₀.slices_S16_o14_S1 Shapes1.Facts₀.inpos_S1_p0 Shapes1.Facts₀.shapeCasts_S16_S16 _ rfl) _ rfl); iexact HT14
  isplitl [HT15]
  · iapply (rest_to d L cF hcF ev q 5 ⟨16 * g.val + 1 + 1 + 1 + 1 + 1 + 1 + 1 + 1 + 1 + 1 + 1 + 1 + 1 + 1 + 1, _⟩ _ _ (word_eq d L cF 5 g.val (k1_off198 g) (K1.Facts₀.k1_off198_inb g) (16 * g.val + 320) rfl hb5 15 Shapes1.Facts₀.slices_S16_o15_S1 Shapes1.Facts₀.inpos_S1_p0 Shapes1.Facts₀.shapeCasts_S16_S16 _ rfl) _ rfl); iexact HT15
  iempintro

end Cert.Proof.KTileVIssue5

end
-- ==== Proof.KTileVIssue6.lean ====
/-
  Chunk 6's issue trip. Trip `g` of the chunk's issue loop loads the 16 centre words of elements `16g … 16g + 15`
  of the chunk and starts, for each, the copy of the table row it names into row `16g + l` of the gathered-rows
  scratch, all on the one gather semaphore: transfers `16g … 16g + 15` of the chunk's batch. Each word is below
  the table's extent (the index scratch holds the subcore's centre words); each copy's delivery is the batch's.
-/
import proofs.«218857_g62938450756068_cont_9to1c4b_813_41_alg».proof.Proof.KTileVWord

set_option maxRecDepth 100000

noncomputable section

namespace Cert.Proof.KTileVIssue6

open Cert.Kernel Cert.Kernel.Gen Cert.Proof.KernelBase Cert.Proof.KTileVDefs Cert.Proof.KTileVMem Cert.Proof.KTileVInv
open Cert.Proof.KTileVIssueLem Cert.Proof.KTileVWord

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (L : grid1.Coords)
variable (cF : Buf (Elt F) (l0 d L)) (hcF : ∀ x : S512.Idx, ((cF : S512.Idx → BitVec 32) x).toNat < 1000000)
variable (ev : Buf (Elt F) (lev d L)) (q : PosShare TreeShare)

set_option maxHeartbeats 0 in
theorem issue_step6 [∀ e, Nonempty (Elt F e)] (v2 : BitVec 32) (g : Fin k1_t19_loop.trips) (acc : Unit) :
    issueAt d L cF hcF ev q 6 g.val acc
      ⊢ wp frame (wpE (defs₀ (F := F)) 𝒱₀ (thr d L) none) Set.univ
          (k1_t19_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 v2 g acc)
          (issueAt d L cF hcF ev q 6 (g.val + 1)) := by
  have hg : g.val < 4 := g.isLt
  have hb6 : 16 * g.val + 384 = 64 * (6 : Fin 8).val + 16 * g.val := by show 16 * g.val + 384 = 64 * 6 + 16 * g.val; omega
  unfold issueAt
  rw [show 16 * (g.val + 1) = 16 * g.val + 1 + 1 + 1 + 1 + 1 + 1 + 1 + 1 + 1 + 1 + 1 + 1 + 1 + 1 + 1 + 1 from by omega]
  rw [Ring.bigSep_rangeSet_head (Φ := rowOwn d L) (lo := 16 * g.val) (by omega) (by omega),
    Ring.bigSep_rangeSet_head (Φ := rowOwn d L) (lo := 16 * g.val + 1) (by omega) (by omega),
    Ring.bigSep_rangeSet_head (Φ := rowOwn d L) (lo := 16 * g.val + 1 + 1) (by omega) (by omega),
    Ring.bigSep_rangeSet_head (Φ := rowOwn d L) (lo := 16 * g.val + 1 + 1 + 1) (by omega) (by omega),
    Ring.bigSep_rangeSet_head (Φ := rowOwn d L) (lo := 16 * g.val + 1 + 1 + 1 + 1) (by omega) (by omega),
    Ring.bigSep_rangeSet_head (Φ := rowOwn d L) (lo := 16 * g.val + 1 + 1 + 1 + 1 + 1) (by omega) (by omega),
    Ring.bigSep_rangeSet_head (Φ := rowOwn d L) (lo := 16 * g.val + 1 + 1 + 1 + 1 + 1 + 1) (by omega) (by omega),
    Ring.bigSep_rangeSet_head (Φ := rowOwn d L) (lo := 16 * g.val + 1 + 1 + 1 + 1 + 1 + 1 + 1) (by omega) (by omega),
    Ring.bigSep_rangeSet_head (Φ := rowOwn d L) (lo := 16 * g.val + 1 + 1 + 1 + 1 + 1 + 1 + 1 + 1) (by omega) (by omega),
    Ring.bigSep_rangeSet_head (Φ := rowOwn d L) (lo := 16 * g.val + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1 + 1) (by omega) (by omega),
    Ring.bigSep_rangeSet_head (Φ := tok d L ev q) (lo := 16 * g.val) (by omega) (by omega),
    Ring.bigSep_rangeSet_head (Φ := tok d L ev q) (lo := 16 * g.val + 1) (by omega) (by omega),
    Ring.bigSep_rangeSet_head (Φ := tok d L ev q) (lo := 16 * g.val + 1 + 1) (by omega) (by omega),
    Ring.bigSep_rangeSet_head (Φ := tok d L ev q) (lo := 16 * g.val + 1 + 1 + 1) (by omega) (by omega),
    Ring.bigSep_rangeSet_head (Φ := tok d L ev q) (lo := 16 * g.val + 1 + 1 + 1 + 1) (by omega) (by omega),
    Ring.bigSep_rangeSet_head (Φ := tok d L ev q) (lo := 16 * g.val + 1 + 1 + 1 + 1 + 1) (by omega) (by omega),
    Ring.bigSep_rangeSet_head (Φ := tok d L ev q) (lo := 16 * g.val + 1 + 1 + 1 + 1 + 1 + 1) (by omega) (by omega),
    Ring.bigSep_rangeSet_head (Φ := tok d L ev q) (lo := 16 * g.val + 1 + 1 + 1 + 1 + 1 + 1 + 1) (by omega) (by omega),
    Ring.bigSep_rangeSet_head (Φ := tok d L ev q) (lo := 16 * g.val + 1 + 1 + 1 + 1 + 1 + 1 + 1 + 1) (by omega) (by omega),
    Ring.bigSep_rangeSet_head (Φ := tok d L ev q) (lo := 16 * g.val + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1 + 1) (by omega) (by omega)]
  rw [Ring.bigSep_rangeSet_split (Φ := tokRest d L cF hcF ev q 6) (a := 0) (b := 16 * g.val) (d := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 6) (lo := 16 * g.val + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_empty (Φ := tokRest d L cF hcF ev q 6) (lo := 16 * g.val + 1 + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (le_refl _)]
  iintro ⟨HB, Hc, ⟨HR0, HR1, HR2, HR3, HR4, HR5, HR6, HR7, HR8, HR9, HR10, HR11, HR12, HR13, HR14, HR15, HRs⟩, ⟨HT0, HT1, HT2, HT3, HT4, HT5, HT6, HT7, HT8, HT9, HT10, HT11, HT12, HT13, HT14, HT15, HTs⟩, Hrest⟩
  ihave HR0' := (rowOwn_to d L ⟨16 * g.val, _⟩ (k1_off240 g 0#32) (K1.Facts₀.k1_off240_inb g 0) rfl) $$ HR0
  icases HR0' with ⟨%f0, HR0⟩
  ihave HR1' := (rowOwn_to d L ⟨16 * g.val + 1, _⟩ (k1_off242 g 1#32) (K1.Facts₀.k1_off242_inb g 0) rfl) $$ HR1
  icases HR1' with ⟨%f1, HR1⟩
  ihave HR2' := (rowOwn_to d L ⟨16 * g.val + 1 + 1, _⟩ (k1_off244 g 2#32) (K1.Facts₀.k1_off244_inb g 0) rfl) $$ HR2
  icases HR2' with ⟨%f2, HR2⟩
  ihave HR3' := (rowOwn_to d L ⟨16 * g.val + 1 + 1 + 1, _⟩ (k1_off246 g 3#32) (K1.Facts₀.k1_off246_inb g 0) rfl) $$ HR3
  icases HR3' with ⟨%f3, HR3⟩
  ihave HR4' := (rowOwn_to d L ⟨16 * g.val + 1 + 1 + 1 + 1, _⟩ (k1_off248 g 4#32) (K1.Facts₀.k1_off248_inb g 0) rfl) $$ HR4
  icases HR4' with ⟨%f4, HR4⟩
  ihave HR5' := (rowOwn_to d L ⟨16 * g.val + 1 + 1 + 1 + 1 + 1, _⟩ (k1_off250 g 5#32) (K1.Facts₀.k1_off250_inb g 0) rfl) $$ HR5
  icases HR5' with ⟨%f5, HR5⟩
  ihave HR6' := (rowOwn_to d L ⟨16 * g.val + 1 + 1 + 1 + 1 + 1 + 1, _⟩ (k1_off252 g 6#32) (K1.Facts₀.k1_off252_inb g 0) rfl) $$ HR6
  icases HR6' with ⟨%f6, HR6⟩
  ihave HR7' := (rowOwn_to d L ⟨16 * g.val + 1 + 1 + 1 + 1 + 1 + 1 + 1, _⟩ (k1_off254 g 7#32) (K1.Facts₀.k1_off254_inb g 0) rfl) $$ HR7
  icases HR7' with ⟨%f7, HR7⟩
  ihave HR8' := (rowOwn_to d L ⟨16 * g.val + 1 + 1 + 1 + 1 + 1 + 1 + 1 + 1, _⟩ (k1_off256 g 8#32) (K1.Facts₀.k1_off256_inb g 0) rfl) $$ HR8
  icases HR8' with ⟨%f8, HR8⟩
  ihave HR9' := (rowOwn_to d L ⟨16 * g.val + 1 + 1 + 1 + 1 + 1 + 1 + 1 + 1 + 1, _⟩ (k1_off258 g 9#32) (K1.Facts₀.k1_off258_inb g 0) rfl) $$ HR9
  icases HR9' with ⟨%f9, HR9⟩
  ihave HR10' := (rowOwn_to d L ⟨16 * g.val + 1 + 1 + 1 + 1 + 1 + 1 + 1 + 1 + 1 + 1, _⟩ (k1_off260 g 10#32) (K1.Facts₀.k1_off260_inb g 0) rfl) $$ HR10
  icases HR10' with ⟨%f10, HR10⟩
  ihave HR11' := (rowOwn_to d L ⟨16 * g.val + 1 + 1 + 1 + 1 + 1 + 1 + 1 + 1 + 1 + 1 + 1, _⟩ (k1_off262 g 11#32) (K1.Facts₀.k1_off262_inb g 0) rfl) $$ HR11
  icases HR11' with ⟨%f11, HR11⟩
  ihave HR12' := (rowOwn_to d L ⟨16 * g.val + 1 + 1 + 1 + 1 + 1 + 1 + 1 + 1 + 1 + 1 + 1 + 1, _⟩ (k1_off264 g 12#32) (K1.Facts₀.k1_off264_inb g 0) rfl) $$ HR12
  icases HR12' with ⟨%f12, HR12⟩
  ihave HR13' := (rowOwn_to d L ⟨16 * g.val + 1 + 1 + 1 + 1 + 1 + 1 + 1 + 1 + 1 + 1 + 1 + 1 + 1, _⟩ (k1_off266 g 13#32) (K1.Facts₀.k1_off266_inb g 0) rfl) $$ HR13
  icases HR13' with ⟨%f13, HR13⟩
  ihave HR14' := (rowOwn_to d L ⟨16 * g.val + 1 + 1 + 1 + 1 + 1 + 1 + 1 + 1 + 1 + 1 + 1 + 1 + 1 + 1, _⟩ (k1_off268 g 14#32) (K1.Facts₀.k1_off268_inb g 0) rfl) $$ HR14
  icases HR14' with ⟨%f14, HR14⟩
  ihave HR15' := (rowOwn_to d L ⟨16 * g.val + 1 + 1 + 1 + 1 + 1 + 1 + 1 + 1 + 1 + 1 + 1 + 1 + 1 + 1 + 1, _⟩ (k1_off270 g) (K1.Facts₀.k1_off270_inb g) rfl) $$ HR15
  icases HR15' with ⟨%f15, HR15⟩
  sl_unfold [k1_t19_body]
  sl_exec (disch := first
    | omega
    | exact TileVRect.row_inb _ (hcF _)
    | exact deliver d L cF hcF ev q 6 _ _ _ rfl _ _ (word_eq d L cF 6 g.val _ _ (16 * g.val + 384) rfl hb6 _ (by decide) (by decide) _ _ rfl) _ _ rfl _ rfl)
  sl_step
  isplitl [HB]; · iexact HB
  isplitl [Hc]; · iexact Hc
  isplitl [HRs]; · iexact HRs
  isplitl [HTs]; · iexact HTs
  isplitl [Hrest]; · iexact Hrest
  isplitl [HT0]
  · iapply (rest_to d L cF hcF ev q 6 ⟨16 * g.val, _⟩ _ _ (word_eq d L cF 6 g.val (k1_off237 g) (K1.Facts₀.k1_off237_inb g) (16 * g.val + 384) rfl hb6 0 Shapes1.Facts₀.slices_S16_o0_S1 Shapes1.Facts₀.inpos_S1_p0 Shapes1.Facts₀.shapeCasts_S16_S16 _ rfl) _ rfl); iexact HT0
  isplitl [HT1]
  · iapply (rest_to d L cF hcF ev q 6 ⟨16 * g.val + 1, _⟩ _ _ (word_eq d L cF 6 g.val (k1_off237 g) (K1.Facts₀.k1_off237_inb g) (16 * g.val + 384) rfl hb6 1 Shapes1.Facts₀.slices_S16_o1_S1 Shapes1.Facts₀.inpos_S1_p0 Shapes1.Facts₀.shapeCasts_S16_S16 _ rfl) _ rfl); iexact HT1
  isplitl [HT2]
  · iapply (rest_to d L cF hcF ev q 6 ⟨16 * g.val + 1 + 1, _⟩ _ _ (word_eq d L cF 6 g.val (k1_off237 g) (K1.Facts₀.k1_off237_inb g) (16 * g.val + 384) rfl hb6 2 Shapes1.Facts₀.slices_S16_o2_S1 Shapes1.Facts₀.inpos_S1_p0 Shapes1.Facts₀.shapeCasts_S16_S16 _ rfl) _ rfl); iexact HT2
  isplitl [HT3]
  · iapply (rest_to d L cF hcF ev q 6 ⟨16 * g.val + 1 + 1 + 1, _⟩ _ _ (word_eq d L cF 6 g.val (k1_off237 g) (K1.Facts₀.k1_off237_inb g) (16 * g.val + 384) rfl hb6 3 Shapes1.Facts₀.slices_S16_o3_S1 Shapes1.Facts₀.inpos_S1_p0 Shapes1.Facts₀.shapeCasts_S16_S16 _ rfl) _ rfl); iexact HT3
  isplitl [HT4]
  · iapply (rest_to d L cF hcF ev q 6 ⟨16 * g.val + 1 + 1 + 1 + 1, _⟩ _ _ (word_eq d L cF 6 g.val (k1_off237 g) (K1.Facts₀.k1_off237_inb g) (16 * g.val + 384) rfl hb6 4 Shapes1.Facts₀.slices_S16_o4_S1 Shapes1.Facts₀.inpos_S1_p0 Shapes1.Facts₀.shapeCasts_S16_S16 _ rfl) _ rfl); iexact HT4
  isplitl [HT5]
  · iapply (rest_to d L cF hcF ev q 6 ⟨16 * g.val + 1 + 1 + 1 + 1 + 1, _⟩ _ _ (word_eq d L cF 6 g.val (k1_off237 g) (K1.Facts₀.k1_off237_inb g) (16 * g.val + 384) rfl hb6 5 Shapes1.Facts₀.slices_S16_o5_S1 Shapes1.Facts₀.inpos_S1_p0 Shapes1.Facts₀.shapeCasts_S16_S16 _ rfl) _ rfl); iexact HT5
  isplitl [HT6]
  · iapply (rest_to d L cF hcF ev q 6 ⟨16 * g.val + 1 + 1 + 1 + 1 + 1 + 1, _⟩ _ _ (word_eq d L cF 6 g.val (k1_off237 g) (K1.Facts₀.k1_off237_inb g) (16 * g.val + 384) rfl hb6 6 Shapes1.Facts₀.slices_S16_o6_S1 Shapes1.Facts₀.inpos_S1_p0 Shapes1.Facts₀.shapeCasts_S16_S16 _ rfl) _ rfl); iexact HT6
  isplitl [HT7]
  · iapply (rest_to d L cF hcF ev q 6 ⟨16 * g.val + 1 + 1 + 1 + 1 + 1 + 1 + 1, _⟩ _ _ (word_eq d L cF 6 g.val (k1_off237 g) (K1.Facts₀.k1_off237_inb g) (16 * g.val + 384) rfl hb6 7 Shapes1.Facts₀.slices_S16_o7_S1 Shapes1.Facts₀.inpos_S1_p0 Shapes1.Facts₀.shapeCasts_S16_S16 _ rfl) _ rfl); iexact HT7
  isplitl [HT8]
  · iapply (rest_to d L cF hcF ev q 6 ⟨16 * g.val + 1 + 1 + 1 + 1 + 1 + 1 + 1 + 1, _⟩ _ _ (word_eq d L cF 6 g.val (k1_off237 g) (K1.Facts₀.k1_off237_inb g) (16 * g.val + 384) rfl hb6 8 Shapes1.Facts₀.slices_S16_o8_S1 Shapes1.Facts₀.inpos_S1_p0 Shapes1.Facts₀.shapeCasts_S16_S16 _ rfl) _ rfl); iexact HT8
  isplitl [HT9]
  · iapply (rest_to d L cF hcF ev q 6 ⟨16 * g.val + 1 + 1 + 1 + 1 + 1 + 1 + 1 + 1 + 1, _⟩ _ _ (word_eq d L cF 6 g.val (k1_off237 g) (K1.Facts₀.k1_off237_inb g) (16 * g.val + 384) rfl hb6 9 Shapes1.Facts₀.slices_S16_o9_S1 Shapes1.Facts₀.inpos_S1_p0 Shapes1.Facts₀.shapeCasts_S16_S16 _ rfl) _ rfl); iexact HT9
  isplitl [HT10]
  · iapply (rest_to d L cF hcF ev q 6 ⟨16 * g.val + 1 + 1 + 1 + 1 + 1 + 1 + 1 + 1 + 1 + 1, _⟩ _ _ (word_eq d L cF 6 g.val (k1_off237 g) (K1.Facts₀.k1_off237_inb g) (16 * g.val + 384) rfl hb6 10 Shapes1.Facts₀.slices_S16_o10_S1 Shapes1.Facts₀.inpos_S1_p0 Shapes1.Facts₀.shapeCasts_S16_S16 _ rfl) _ rfl); iexact HT10
  isplitl [HT11]
  · iapply (rest_to d L cF hcF ev q 6 ⟨16 * g.val + 1 + 1 + 1 + 1 + 1 + 1 + 1 + 1 + 1 + 1 + 1, _⟩ _ _ (word_eq d L cF 6 g.val (k1_off237 g) (K1.Facts₀.k1_off237_inb g) (16 * g.val + 384) rfl hb6 11 Shapes1.Facts₀.slices_S16_o11_S1 Shapes1.Facts₀.inpos_S1_p0 Shapes1.Facts₀.shapeCasts_S16_S16 _ rfl) _ rfl); iexact HT11
  isplitl [HT12]
  · iapply (rest_to d L cF hcF ev q 6 ⟨16 * g.val + 1 + 1 + 1 + 1 + 1 + 1 + 1 + 1 + 1 + 1 + 1 + 1, _⟩ _ _ (word_eq d L cF 6 g.val (k1_off237 g) (K1.Facts₀.k1_off237_inb g) (16 * g.val + 384) rfl hb6 12 Shapes1.Facts₀.slices_S16_o12_S1 Shapes1.Facts₀.inpos_S1_p0 Shapes1.Facts₀.shapeCasts_S16_S16 _ rfl) _ rfl); iexact HT12
  isplitl [HT13]
  · iapply (rest_to d L cF hcF ev q 6 ⟨16 * g.val + 1 + 1 + 1 + 1 + 1 + 1 + 1 + 1 + 1 + 1 + 1 + 1 + 1, _⟩ _ _ (word_eq d L cF 6 g.val (k1_off237 g) (K1.Facts₀.k1_off237_inb g) (16 * g.val + 384) rfl hb6 13 Shapes1.Facts₀.slices_S16_o13_S1 Shapes1.Facts₀.inpos_S1_p0 Shapes1.Facts₀.shapeCasts_S16_S16 _ rfl) _ rfl); iexact HT13
  isplitl [HT14]
  · iapply (rest_to d L cF hcF ev q 6 ⟨16 * g.val + 1 + 1 + 1 + 1 + 1 + 1 + 1 + 1 + 1 + 1 + 1 + 1 + 1 + 1, _⟩ _ _ (word_eq d L cF 6 g.val (k1_off237 g) (K1.Facts₀.k1_off237_inb g) (16 * g.val + 384) rfl hb6 14 Shapes1.Facts₀.slices_S16_o14_S1 Shapes1.Facts₀.inpos_S1_p0 Shapes1.Facts₀.shapeCasts_S16_S16 _ rfl) _ rfl); iexact HT14
  isplitl [HT15]
  · iapply (rest_to d L cF hcF ev q 6 ⟨16 * g.val + 1 + 1 + 1 + 1 + 1 + 1 + 1 + 1 + 1 + 1 + 1 + 1 + 1 + 1 + 1, _⟩ _ _ (word_eq d L cF 6 g.val (k1_off237 g) (K1.Facts₀.k1_off237_inb g) (16 * g.val + 384) rfl hb6 15 Shapes1.Facts₀.slices_S16_o15_S1 Shapes1.Facts₀.inpos_S1_p0 Shapes1.Facts₀.shapeCasts_S16_S16 _ rfl) _ rfl); iexact HT15
  iempintro

end Cert.Proof.KTileVIssue6

end
-- ==== Proof.KTileVIssue7.lean ====
/-
  Chunk 7's issue trip. Trip `g` of the chunk's issue loop loads the 16 centre words of elements `16g … 16g + 15`
  of the chunk and starts, for each, the copy of the table row it names into row `16g + l` of the gathered-rows
  scratch, all on the one gather semaphore: transfers `16g … 16g + 15` of the chunk's batch. Each word is below
  the table's extent (the index scratch holds the subcore's centre words); each copy's delivery is the batch's.
-/
import proofs.«218857_g62938450756068_cont_9to1c4b_813_41_alg».proof.Proof.KTileVWord

set_option maxRecDepth 100000

noncomputable section

namespace Cert.Proof.KTileVIssue7

open Cert.Kernel Cert.Kernel.Gen Cert.Proof.KernelBase Cert.Proof.KTileVDefs Cert.Proof.KTileVMem Cert.Proof.KTileVInv
open Cert.Proof.KTileVIssueLem Cert.Proof.KTileVWord

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (L : grid1.Coords)
variable (cF : Buf (Elt F) (l0 d L)) (hcF : ∀ x : S512.Idx, ((cF : S512.Idx → BitVec 32) x).toNat < 1000000)
variable (ev : Buf (Elt F) (lev d L)) (q : PosShare TreeShare)

set_option maxHeartbeats 0 in
theorem issue_step7 [∀ e, Nonempty (Elt F e)] (g : Fin k1_t22_loop.trips) (acc : Unit) :
    issueAt d L cF hcF ev q 7 g.val acc
      ⊢ wp frame (wpE (defs₀ (F := F)) 𝒱₀ (thr d L) none) Set.univ
          (k1_t22_body L cW (Memref.isWhole_whole _) evW (Memref.isWhole_whole _) uW (Memref.isWhole_whole _)
            pW (Memref.isWhole_whole _) s0 (Memref.isWhole_whole _) s1 (Memref.isWhole_whole _)
            s2 (Memref.isWhole_whole _) s3 (Memref.isWhole_whole _) cc1_scratch4
            cc1_scoped0 cc1_scoped1 cc1_scoped2 cc1_scoped3 cc1_scoped4 cc1_scoped5 cc1_scoped6 cc1_scoped7 cc1_scoped8 cc1_scoped9 g acc)
          (issueAt d L cF hcF ev q 7 (g.val + 1)) := by
  have hg : g.val < 4 := g.isLt
  have hb7 : 16 * g.val + 448 = 64 * (7 : Fin 8).val + 16 * g.val := by show 16 * g.val + 448 = 64 * 7 + 16 * g.val; omega
  unfold issueAt
  rw [show 16 * (g.val + 1) = 16 * g.val + 1 + 1 + 1 + 1 + 1 + 1 + 1 + 1 + 1 + 1 + 1 + 1 + 1 + 1 + 1 + 1 from by omega]
  rw [Ring.bigSep_rangeSet_head (Φ := rowOwn d L) (lo := 16 * g.val) (by omega) (by omega),
    Ring.bigSep_rangeSet_head (Φ := rowOwn d L) (lo := 16 * g.val + 1) (by omega) (by omega),
    Ring.bigSep_rangeSet_head (Φ := rowOwn d L) (lo := 16 * g.val + 1 + 1) (by omega) (by omega),
    Ring.bigSep_rangeSet_head (Φ := rowOwn d L) (lo := 16 * g.val + 1 + 1 + 1) (by omega) (by omega),
    Ring.bigSep_rangeSet_head (Φ := rowOwn d L) (lo := 16 * g.val + 1 + 1 + 1 + 1) (by omega) (by omega),
    Ring.bigSep_rangeSet_head (Φ := rowOwn d L) (lo := 16 * g.val + 1 + 1 + 1 + 1 + 1) (by omega) (by omega),
    Ring.bigSep_rangeSet_head (Φ := rowOwn d L) (lo := 16 * g.val + 1 + 1 + 1 + 1 + 1 + 1) (by omega) (by omega),
    Ring.bigSep_rangeSet_head (Φ := rowOwn d L) (lo := 16 * g.val + 1 + 1 + 1 + 1 + 1 + 1 + 1) (by omega) (by omega),
    Ring.bigSep_rangeSet_head (Φ := rowOwn d L) (lo := 16 * g.val + 1 + 1 + 1 + 1 + 1 + 1 + 1 + 1) (by omega) (by omega),
    Ring.bigSep_rangeSet_head (Φ := rowOwn d L) (lo := 16 * g.val + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1) (by omega) (by omega),
    Ring.bigSep_rangeSet_head (Φ := rowOwn d L) (lo := 16 * g.val + 1 + 1 + 1 + 1 + 1 + 1 + 1 + 1 + 1 + 1 + 1 + 1 + 1 + 1 + 1) (by omega) (by omega),
    Ring.bigSep_rangeSet_head (Φ := tok d L ev q) (lo := 16 * g.val) (by omega) (by omega),
    Ring.bigSep_rangeSet_head (Φ := tok d L ev q) (lo := 16 * g.val + 1) (by omega) (by omega),
    Ring.bigSep_rangeSet_head (Φ := tok d L ev q) (lo := 16 * g.val + 1 + 1) (by omega) (by omega),
    Ring.bigSep_rangeSet_head (Φ := tok d L ev q) (lo := 16 * g.val + 1 + 1 + 1) (by omega) (by omega),
    Ring.bigSep_rangeSet_head (Φ := tok d L ev q) (lo := 16 * g.val + 1 + 1 + 1 + 1) (by omega) (by omega),
    Ring.bigSep_rangeSet_head (Φ := tok d L ev q) (lo := 16 * g.val + 1 + 1 + 1 + 1 + 1) (by omega) (by omega),
    Ring.bigSep_rangeSet_head (Φ := tok d L ev q) (lo := 16 * g.val + 1 + 1 + 1 + 1 + 1 + 1) (by omega) (by omega),
    Ring.bigSep_rangeSet_head (Φ := tok d L ev q) (lo := 16 * g.val + 1 + 1 + 1 + 1 + 1 + 1 + 1) (by omega) (by omega),
    Ring.bigSep_rangeSet_head (Φ := tok d L ev q) (lo := 16 * g.val + 1 + 1 + 1 + 1 + 1 + 1 + 1 + 1) (by omega) (by omega),
    Ring.bigSep_rangeSet_head (Φ := tok d L ev q) (lo := 16 * g.val + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1) (by omega) (by omega),
    Ring.bigSep_rangeSet_head (Φ := tok d L ev q) (lo := 16 * g.val + 1 + 1 + 1 + 1 + 1 + 1 + 1 + 1 + 1 + 1 + 1 + 1 + 1 + 1 + 1) (by omega) (by omega)]
  rw [Ring.bigSep_rangeSet_split (Φ := tokRest d L cF hcF ev q 7) (a := 0) (b := 16 * g.val) (d := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_head (Φ := tokRest d L cF hcF ev q 7) (lo := 16 * g.val + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (by omega) (by omega),
    Ring.bigSep_rangeSet_empty (Φ := tokRest d L cF hcF ev q 7) (lo := 16 * g.val + 1 + 1 + 1 + 1 + 1 + 1 + 1 + 1 + 1 + 1 + 1 + 1 + 1 + 1 + 1 + 1) (hi := 16 * g.val + 1 + 1 + 1 + 1 + 1 + 1 + 1 + 1 + 1 + 1 + 1 + 1 + 1 + 1 + 1 + 1) (le_refl _)]
  iintro ⟨HB, Hc, ⟨HR0, HR1, HR2, HR3, HR4, HR5, HR6, HR7, HR8, HR9, HR10, HR11, HR12, HR13, HR14, HR15, HRs⟩, ⟨HT0, HT1, HT2, HT3, HT4, HT5, HT6, HT7, HT8, HT9, HT10, HT11, HT12, HT13, HT14, HT15, HTs⟩, Hrest⟩
  ihave HR0' := (rowOwn_to d L ⟨16 * g.val, _⟩ (k1_off279 g 0#32) (K1.Facts₀.k1_off279_inb g 0) rfl) $$ HR0
  icases HR0' with ⟨%f0, HR0⟩
  ihave HR1' := (rowOwn_to d L ⟨16 * g.val + 1, _⟩ (k1_off281 g 1#32) (K1.Facts₀.k1_off281_inb g 0) rfl) $$ HR1
  icases HR1' with ⟨%f1, HR1⟩
  ihave HR2' := (rowOwn_to d L ⟨16 * g.val + 1 + 1, _⟩ (k1_off283 g 2#32) (K1.Facts₀.k1_off283_inb g 0) rfl) $$ HR2
  icases HR2' with ⟨%f2, HR2⟩
  ihave HR3' := (rowOwn_to d L ⟨16 * g.val + 1 + 1 + 1, _⟩ (k1_off285 g 3#32) (K1.Facts₀.k1_off285_inb g 0) rfl) $$ HR3
  icases HR3' with ⟨%f3, HR3⟩
  ihave HR4' := (rowOwn_to d L ⟨16 * g.val + 1 + 1 + 1 + 1, _⟩ (k1_off287 g 4#32) (K1.Facts₀.k1_off287_inb g 0) rfl) $$ HR4
  icases HR4' with ⟨%f4, HR4⟩
  ihave HR5' := (rowOwn_to d L ⟨16 * g.val + 1 + 1 + 1 + 1 + 1, _⟩ (k1_off289 g 5#32) (K1.Facts₀.k1_off289_inb g 0) rfl) $$ HR5
  icases HR5' with ⟨%f5, HR5⟩
  ihave HR6' := (rowOwn_to d L ⟨16 * g.val + 1 + 1 + 1 + 1 + 1 + 1, _⟩ (k1_off291 g 6#32) (K1.Facts₀.k1_off291_inb g 0) rfl) $$ HR6
  icases HR6' with ⟨%f6, HR6⟩
  ihave HR7' := (rowOwn_to d L ⟨16 * g.val + 1 + 1 + 1 + 1 + 1 + 1 + 1, _⟩ (k1_off293 g 7#32) (K1.Facts₀.k1_off293_inb g 0) rfl) $$ HR7
  icases HR7' with ⟨%f7, HR7⟩
  ihave HR8' := (rowOwn_to d L ⟨16 * g.val + 1 + 1 + 1 + 1 + 1 + 1 + 1 + 1, _⟩ (k1_off295 g 8#32) (K1.Facts₀.k1_off295_inb g 0) rfl) $$ HR8
  icases HR8' with ⟨%f8, HR8⟩
  ihave HR9' := (rowOwn_to d L ⟨16 * g.val + 1 + 1 + 1 + 1 + 1 + 1 + 1 + 1 + 1, _⟩ (k1_off297 g 9#32) (K1.Facts₀.k1_off297_inb g 0) rfl) $$ HR9
  icases HR9' with ⟨%f9, HR9⟩
  ihave HR10' := (rowOwn_to d L ⟨16 * g.val + 1 + 1 + 1 + 1 + 1 + 1 + 1 + 1 + 1 + 1, _⟩ (k1_off299 g 10#32) (K1.Facts₀.k1_off299_inb g 0) rfl) $$ HR10
  icases HR10' with ⟨%f10, HR10⟩
  ihave HR11' := (rowOwn_to d L ⟨16 * g.val + 1 + 1 + 1 + 1 + 1 + 1 + 1 + 1 + 1 + 1 + 1, _⟩ (k1_off301 g 11#32) (K1.Facts₀.k1_off301_inb g 0) rfl) $$ HR11
  icases HR11' with ⟨%f11, HR11⟩
  ihave HR12' := (rowOwn_to d L ⟨16 * g.val + 1 + 1 + 1 + 1 + 1 + 1 + 1 + 1 + 1 + 1 + 1 + 1, _⟩ (k1_off303 g 12#32) (K1.Facts₀.k1_off303_inb g 0) rfl) $$ HR12
  icases HR12' with ⟨%f12, HR12⟩
  ihave HR13' := (rowOwn_to d L ⟨16 * g.val + 1 + 1 + 1 + 1 + 1 + 1 + 1 + 1 + 1 + 1 + 1 + 1 + 1, _⟩ (k1_off305 g 13#32) (K1.Facts₀.k1_off305_inb g 0) rfl) $$ HR13
  icases HR13' with ⟨%f13, HR13⟩
  ihave HR14' := (rowOwn_to d L ⟨16 * g.val + 1 + 1 + 1 + 1 + 1 + 1 + 1 + 1 + 1 + 1 + 1 + 1 + 1 + 1, _⟩ (k1_off307 g 14#32) (K1.Facts₀.k1_off307_inb g 0) rfl) $$ HR14
  icases HR14' with ⟨%f14, HR14⟩
  ihave HR15' := (rowOwn_to d L ⟨16 * g.val + 1 + 1 + 1 + 1 + 1 + 1 + 1 + 1 + 1 + 1 + 1 + 1 + 1 + 1 + 1, _⟩ (k1_off309 g) (K1.Facts₀.k1_off309_inb g) rfl) $$ HR15
  icases HR15' with ⟨%f15, HR15⟩
  sl_unfold [k1_t22_body]
  sl_exec (disch := first
    | omega
    | exact TileVRect.row_inb _ (hcF _)
    | exact deliver d L cF hcF ev q 7 _ _ _ rfl _ _ (word_eq d L cF 7 g.val _ _ (16 * g.val + 448) rfl hb7 _ (by decide) (by decide) _ _ rfl) _ _ rfl _ rfl)
  sl_step
  isplitl [HB]; · iexact HB
  isplitl [Hc]; · iexact Hc
  isplitl [HRs]; · iexact HRs
  isplitl [HTs]; · iexact HTs
  isplitl [Hrest]; · iexact Hrest
  isplitl [HT0]
  · iapply (rest_to d L cF hcF ev q 7 ⟨16 * g.val, _⟩ _ _ (word_eq d L cF 7 g.val (k1_off276 g) (K1.Facts₀.k1_off276_inb g) (16 * g.val + 448) rfl hb7 0 Shapes1.Facts₀.slices_S16_o0_S1 Shapes1.Facts₀.inpos_S1_p0 Shapes1.Facts₀.shapeCasts_S16_S16 _ rfl) _ rfl); iexact HT0
  isplitl [HT1]
  · iapply (rest_to d L cF hcF ev q 7 ⟨16 * g.val + 1, _⟩ _ _ (word_eq d L cF 7 g.val (k1_off276 g) (K1.Facts₀.k1_off276_inb g) (16 * g.val + 448) rfl hb7 1 Shapes1.Facts₀.slices_S16_o1_S1 Shapes1.Facts₀.inpos_S1_p0 Shapes1.Facts₀.shapeCasts_S16_S16 _ rfl) _ rfl); iexact HT1
  isplitl [HT2]
  · iapply (rest_to d L cF hcF ev q 7 ⟨16 * g.val + 1 + 1, _⟩ _ _ (word_eq d L cF 7 g.val (k1_off276 g) (K1.Facts₀.k1_off276_inb g) (16 * g.val + 448) rfl hb7 2 Shapes1.Facts₀.slices_S16_o2_S1 Shapes1.Facts₀.inpos_S1_p0 Shapes1.Facts₀.shapeCasts_S16_S16 _ rfl) _ rfl); iexact HT2
  isplitl [HT3]
  · iapply (rest_to d L cF hcF ev q 7 ⟨16 * g.val + 1 + 1 + 1, _⟩ _ _ (word_eq d L cF 7 g.val (k1_off276 g) (K1.Facts₀.k1_off276_inb g) (16 * g.val + 448) rfl hb7 3 Shapes1.Facts₀.slices_S16_o3_S1 Shapes1.Facts₀.inpos_S1_p0 Shapes1.Facts₀.shapeCasts_S16_S16 _ rfl) _ rfl); iexact HT3
  isplitl [HT4]
  · iapply (rest_to d L cF hcF ev q 7 ⟨16 * g.val + 1 + 1 + 1 + 1, _⟩ _ _ (word_eq d L cF 7 g.val (k1_off276 g) (K1.Facts₀.k1_off276_inb g) (16 * g.val + 448) rfl hb7 4 Shapes1.Facts₀.slices_S16_o4_S1 Shapes1.Facts₀.inpos_S1_p0 Shapes1.Facts₀.shapeCasts_S16_S16 _ rfl) _ rfl); iexact HT4
  isplitl [HT5]
  · iapply (rest_to d L cF hcF ev q 7 ⟨16 * g.val + 1 + 1 + 1 + 1 + 1, _⟩ _ _ (word_eq d L cF 7 g.val (k1_off276 g) (K1.Facts₀.k1_off276_inb g) (16 * g.val + 448) rfl hb7 5 Shapes1.Facts₀.slices_S16_o5_S1 Shapes1.Facts₀.inpos_S1_p0 Shapes1.Facts₀.shapeCasts_S16_S16 _ rfl) _ rfl); iexact HT5
  isplitl [HT6]
  · iapply (rest_to d L cF hcF ev q 7 ⟨16 * g.val + 1 + 1 + 1 + 1 + 1 + 1, _⟩ _ _ (word_eq d L cF 7 g.val (k1_off276 g) (K1.Facts₀.k1_off276_inb g) (16 * g.val + 448) rfl hb7 6 Shapes1.Facts₀.slices_S16_o6_S1 Shapes1.Facts₀.inpos_S1_p0 Shapes1.Facts₀.shapeCasts_S16_S16 _ rfl) _ rfl); iexact HT6
  isplitl [HT7]
  · iapply (rest_to d L cF hcF ev q 7 ⟨16 * g.val + 1 + 1 + 1 + 1 + 1 + 1 + 1, _⟩ _ _ (word_eq d L cF 7 g.val (k1_off276 g) (K1.Facts₀.k1_off276_inb g) (16 * g.val + 448) rfl hb7 7 Shapes1.Facts₀.slices_S16_o7_S1 Shapes1.Facts₀.inpos_S1_p0 Shapes1.Facts₀.shapeCasts_S16_S16 _ rfl) _ rfl); iexact HT7
  isplitl [HT8]
  · iapply (rest_to d L cF hcF ev q 7 ⟨16 * g.val + 1 + 1 + 1 + 1 + 1 + 1 + 1 + 1, _⟩ _ _ (word_eq d L cF 7 g.val (k1_off276 g) (K1.Facts₀.k1_off276_inb g) (16 * g.val + 448) rfl hb7 8 Shapes1.Facts₀.slices_S16_o8_S1 Shapes1.Facts₀.inpos_S1_p0 Shapes1.Facts₀.shapeCasts_S16_S16 _ rfl) _ rfl); iexact HT8
  isplitl [HT9]
  · iapply (rest_to d L cF hcF ev q 7 ⟨16 * g.val + 1 + 1 + 1 + 1 + 1 + 1 + 1 + 1 + 1, _⟩ _ _ (word_eq d L cF 7 g.val (k1_off276 g) (K1.Facts₀.k1_off276_inb g) (16 * g.val + 448) rfl hb7 9 Shapes1.Facts₀.slices_S16_o9_S1 Shapes1.Facts₀.inpos_S1_p0 Shapes1.Facts₀.shapeCasts_S16_S16 _ rfl) _ rfl); iexact HT9
  isplitl [HT10]
  · iapply (rest_to d L cF hcF ev q 7 ⟨16 * g.val + 1 + 1 + 1 + 1 + 1 + 1 + 1 + 1 + 1 + 1, _⟩ _ _ (word_eq d L cF 7 g.val (k1_off276 g) (K1.Facts₀.k1_off276_inb g) (16 * g.val + 448) rfl hb7 10 Shapes1.Facts₀.slices_S16_o10_S1 Shapes1.Facts₀.inpos_S1_p0 Shapes1.Facts₀.shapeCasts_S16_S16 _ rfl) _ rfl); iexact HT10
  isplitl [HT11]
  · iapply (rest_to d L cF hcF ev q 7 ⟨16 * g.val + 1 + 1 + 1 + 1 + 1 + 1 + 1 + 1 + 1 + 1 + 1, _⟩ _ _ (word_eq d L cF 7 g.val (k1_off276 g) (K1.Facts₀.k1_off276_inb g) (16 * g.val + 448) rfl hb7 11 Shapes1.Facts₀.slices_S16_o11_S1 Shapes1.Facts₀.inpos_S1_p0 Shapes1.Facts₀.shapeCasts_S16_S16 _ rfl) _ rfl); iexact HT11
  isplitl [HT12]
  · iapply (rest_to d L cF hcF ev q 7 ⟨16 * g.val + 1 + 1 + 1 + 1 + 1 + 1 + 1 + 1 + 1 + 1 + 1 + 1, _⟩ _ _ (word_eq d L cF 7 g.val (k1_off276 g) (K1.Facts₀.k1_off276_inb g) (16 * g.val + 448) rfl hb7 12 Shapes1.Facts₀.slices_S16_o12_S1 Shapes1.Facts₀.inpos_S1_p0 Shapes1.Facts₀.shapeCasts_S16_S16 _ rfl) _ rfl); iexact HT12
  isplitl [HT13]
  · iapply (rest_to d L cF hcF ev q 7 ⟨16 * g.val + 1 + 1 + 1 + 1 + 1 + 1 + 1 + 1 + 1 + 1 + 1 + 1 + 1, _⟩ _ _ (word_eq d L cF 7 g.val (k1_off276 g) (K1.Facts₀.k1_off276_inb g) (16 * g.val + 448) rfl hb7 13 Shapes1.Facts₀.slices_S16_o13_S1 Shapes1.Facts₀.inpos_S1_p0 Shapes1.Facts₀.shapeCasts_S16_S16 _ rfl) _ rfl); iexact HT13
  isplitl [HT14]
  · iapply (rest_to d L cF hcF ev q 7 ⟨16 * g.val + 1 + 1 + 1 + 1 + 1 + 1 + 1 + 1 + 1 + 1 + 1 + 1 + 1 + 1, _⟩ _ _ (word_eq d L cF 7 g.val (k1_off276 g) (K1.Facts₀.k1_off276_inb g) (16 * g.val + 448) rfl hb7 14 Shapes1.Facts₀.slices_S16_o14_S1 Shapes1.Facts₀.inpos_S1_p0 Shapes1.Facts₀.shapeCasts_S16_S16 _ rfl) _ rfl); iexact HT14
  isplitl [HT15]
  · iapply (rest_to d L cF hcF ev q 7 ⟨16 * g.val + 1 + 1 + 1 + 1 + 1 + 1 + 1 + 1 + 1 + 1 + 1 + 1 + 1 + 1 + 1, _⟩ _ _ (word_eq d L cF 7 g.val (k1_off276 g) (K1.Facts₀.k1_off276_inb g) (16 * g.val + 448) rfl hb7 15 Shapes1.Facts₀.slices_S16_o15_S1 Shapes1.Facts₀.inpos_S1_p0 Shapes1.Facts₀.shapeCasts_S16_S16 _ rfl) _ rfl); iexact HT15
  iempintro

end Cert.Proof.KTileVIssue7

end
-- ==== Proof.KTileVBody.lean ====
/-
  The second SparseCore kernel's task on one subcore, with the element loop's invariant in place: before trip e
  of chunk j the partial-products scratch already agrees with the result below entry 16(64j + e). At e = 0 that
  is entry 1024j, where the previous chunk stopped; at e = 64 it is entry 1024(j + 1).
-/
import proofs.«218857_g62938450756068_cont_9to1c4b_813_41_alg».proof.Proof.KTileV
import proofs.«218857_g62938450756068_cont_9to1c4b_813_41_alg».proof.Proof.KTileVElemInv
import proofs.«218857_g62938450756068_cont_9to1c4b_813_41_alg».proof.Proof.KernelStmt
import proofs.«218857_g62938450756068_cont_9to1c4b_813_41_alg».proof.Proof.KTileVElem0
import proofs.«218857_g62938450756068_cont_9to1c4b_813_41_alg».proof.Proof.KTileVElem1
import proofs.«218857_g62938450756068_cont_9to1c4b_813_41_alg».proof.Proof.KTileVElem2
import proofs.«218857_g62938450756068_cont_9to1c4b_813_41_alg».proof.Proof.KTileVElem3
import proofs.«218857_g62938450756068_cont_9to1c4b_813_41_alg».proof.Proof.KTileVElem4
import proofs.«218857_g62938450756068_cont_9to1c4b_813_41_alg».proof.Proof.KTileVElem5
import proofs.«218857_g62938450756068_cont_9to1c4b_813_41_alg».proof.Proof.KTileVElem6
import proofs.«218857_g62938450756068_cont_9to1c4b_813_41_alg».proof.Proof.KTileVElem7
import proofs.«218857_g62938450756068_cont_9to1c4b_813_41_alg».proof.Proof.KTileVIssue0
import proofs.«218857_g62938450756068_cont_9to1c4b_813_41_alg».proof.Proof.KTileVIssue1
import proofs.«218857_g62938450756068_cont_9to1c4b_813_41_alg».proof.Proof.KTileVIssue2
import proofs.«218857_g62938450756068_cont_9to1c4b_813_41_alg».proof.Proof.KTileVIssue3
import proofs.«218857_g62938450756068_cont_9to1c4b_813_41_alg».proof.Proof.KTileVIssue4
import proofs.«218857_g62938450756068_cont_9to1c4b_813_41_alg».proof.Proof.KTileVIssue5
import proofs.«218857_g62938450756068_cont_9to1c4b_813_41_alg».proof.Proof.KTileVIssue6
import proofs.«218857_g62938450756068_cont_9to1c4b_813_41_alg».proof.Proof.KTileVIssue7

noncomputable section

namespace Cert.Proof.KTileVBody

open Cert.Kernel Cert.Kernel.Gen Cert.Proof.KernelBase Cert.Proof.KernelBodies
open Cert.Proof.KTileVDefs Cert.Proof.KTileVMem Cert.Proof.KTileVInv Cert.Proof.KTileVDrain

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (d : Dev nD) (L : grid1.Coords)

/-- The element invariant at trip 0 of chunk j, from the three scratch buffers. -/
theorem ea_in (U : Buf (Elt F) (urowsLoc d)) (j : Fin 8) (cF : Buf (Elt F) (l0 d L)) (Uj : Buf (Elt F) (l2 d L)) (pf : Buf (Elt F) (l3 d L))
    (hc : KTileV.CenOK m d L cF) (hu : KTileV.UjOK d L U j Uj) (hp : KTileV.okBelow m d L U (1024 * j.val) pf) :
    (iprop(((s1).view.loc (thr d L) ↦{fullShare} gath d L cF (m (evLoc d)) j) ∗ ((s2).view.loc (thr d L) ↦{fullShare} Uj)
        ∗ ((s3).view.loc (thr d L) ↦{fullShare} pf)) : sProp 𝕄) ⊢ KTileVElemInv.elemAt m d L U j cF (m (evLoc d)) Uj 0 () := by
  unfold KTileVElemInv.elemAt
  iintro ⟨H1, H2, H3⟩
  isplitl [H1]; · iexact H1
  isplitl [H2]; · iexact H2
  iexists pf; isplitr
  · ipureintro; intro x hx; exact hp x (by omega)
  · iexact H3

/-- After trip 63 of chunk j the scratch agrees with the result below entry 1024(j + 1). -/
theorem ea_out (U : Buf (Elt F) (urowsLoc d)) (j : Fin 8) (cF : Buf (Elt F) (l0 d L)) (Uj : Buf (Elt F) (l2 d L)) (acc : Unit) :
    KTileVElemInv.elemAt m d L U j cF (m (evLoc d)) Uj 64 acc
      ⊢ (iprop(∃ pf : Buf (Elt F) (l3 d L), ⌜KTileV.okBelow m d L U (1024 * (j.val + 1)) pf⌝
          ∗ ((s1).view.loc (thr d L) ↦{fullShare} gath d L cF (m (evLoc d)) j) ∗ ((s2).view.loc (thr d L) ↦{fullShare} Uj)
          ∗ ((s3).view.loc (thr d L) ↦{fullShare} pf)) : sProp 𝕄) := by
  unfold KTileVElemInv.elemAt
  iintro ⟨H1, H2, %pf, %hp, H3⟩
  iexists pf; isplitr
  · ipureintro; intro x hx; exact hp x (by omega)
  isplitl [H1]; · iexact H1
  isplitl [H2] <;> iassumption

/-- THE SECOND KERNEL'S TASK ON ONE SUBCORE: from what the call hands the subcore to the same with its slice of the
    partial products at its value, for any context rows and any prior contents of the result. -/
theorem tile_body_v [∀ e, Nonempty (Elt F e)]
    (hF : (K (F := F)).Facts) (hpre : KTileVDefs.PreOKV m)
    (U : Buf (Elt F) (urowsLoc d)) (f0 : Buf (Elt F) (pposLoc d))
    (O : CellTallies nD τ sig (HIx 2)) (W : Waits sig (HIx 2)) (hO : ∀ g, O g none = 0) :
    iprop(levAts (K (F := F)).L (K (F := F)).lev ∗ emp ∗ KTileVDefs.goV m d L U f0
        ∗ scopedBufs (thr d L) ∗ scopedSems0 (thr d L) ∗ owes (thr d L) O W)
      ⊢ wp frame (wpE (defs₀ (F := F)) 𝒱₀ (thr d L) none) Set.univ (bodyV (F := F) L)
          fun _ => iprop(KTileVDefs.tdV m d L U ∗ scopedBufs (thr d L) ∗ scopedSems0 (thr d L)
            ∗ ∃ W', ⌜∀ p ∈ W', p ∈ W ∨ p.2 = none⌝ ∗ owes (thr d L) O W') :=
  KTileV.tile_body_v_of_steps m d L U (fun j cF ev Uj => KTileVElemInv.elemAt m d L U j cF ev Uj)
    (fun j cF Uj pf hc hu hp => ea_in m d L U j cF Uj pf hc hu hp)
    (fun j cF Uj acc => ea_out m d L U j cF Uj acc)
    (fun cF hcF ev q g acc => KTileVIssue0.issue_step0 d L cF hcF ev q g acc)
    (fun cF hcF ev q v2 c0 g acc => KTileVIssue1.issue_step1 d L cF hcF ev q v2 c0 g acc)
    (fun cF hcF ev q v2 c0 g acc => KTileVIssue2.issue_step2 d L cF hcF ev q v2 c0 g acc)
    (fun cF hcF ev q v2 g acc => KTileVIssue3.issue_step3 d L cF hcF ev q v2 g acc)
    (fun cF hcF ev q v2 g acc => KTileVIssue4.issue_step4 d L cF hcF ev q v2 g acc)
    (fun cF hcF ev q v2 g acc => KTileVIssue5.issue_step5 d L cF hcF ev q v2 g acc)
    (fun cF hcF ev q v2 g acc => KTileVIssue6.issue_step6 d L cF hcF ev q v2 g acc)
    (fun cF hcF ev q g acc => KTileVIssue7.issue_step7 d L cF hcF ev q g acc)
    (fun cF Uj hc hu e acc => KTileVElem0.elem_step0 m d L U cF Uj hc hu e acc)
    (fun cF Uj hc hu v2 c0 e acc => KTileVElem1.elem_step1 m d L U cF Uj hc hu v2 c0 e acc)
    (fun cF Uj hc hu v2 c0 e acc => KTileVElem2.elem_step2 m d L U cF Uj hc hu v2 c0 e acc)
    (fun cF Uj hc hu v2 e acc => KTileVElem3.elem_step3 m d L U cF Uj hc hu v2 e acc)
    (fun cF Uj hc hu v2 e acc => KTileVElem4.elem_step4 m d L U cF Uj hc hu v2 e acc)
    (fun cF Uj hc hu v2 e acc => KTileVElem5.elem_step5 m d L U cF Uj hc hu v2 e acc)
    (fun cF Uj hc hu e acc => KTileVElem6.elem_step6 m d L U cF Uj hc hu e acc)
    (fun cF Uj hc hu e acc => KTileVElem7.elem_step7 m d L U cF Uj hc hu e acc)
    hF hpre f0 O W hO

/-- The statement the launch theorem's obligation for the second kernel asks for. -/
theorem bodyV [∀ e, Nonempty (Elt F e)] (hpre : KTileVDefs.PreOKV m) : KernelStmt.BodyV m := fun d L O W hO =>
  tile_body_v m d L Cert.Proof.KernelBase.facts hpre (KTileU.urowsF m d) (m (pposLoc d)) O W hO

end Cert.Proof.KTileVBody

end
-- ==== Proof.KernelFinal.lean ====
/-
  The two kernels' tasks, as the propositions the claim was reduced to: the first kernel's from its proof at a
  symbolic subcore with the flattened negatives at what the host's reshape leaves; the second kernel's from its
  proof at a symbolic subcore with the context rows at what the first kernel left.
-/
import proofs.«218857_g62938450756068_cont_9to1c4b_813_41_alg».proof.Proof.KernelStmt
import proofs.«218857_g62938450756068_cont_9to1c4b_813_41_alg».proof.Proof.KernelFlat
import proofs.«218857_g62938450756068_cont_9to1c4b_813_41_alg».proof.Proof.KTileUBody
import proofs.«218857_g62938450756068_cont_9to1c4b_813_41_alg».proof.Proof.KTileVBody

noncomputable section

namespace Cert.Proof.KernelFinal

open Cert.Kernel Cert.Kernel.Gen Cert.Proof.KernelBase Cert.Proof.KernelPay

open Idealize.ShloMosaic Idealize.SL.Sem

variable {F : FTy → Type} [FloatOps F]

variable (m : (ℓ : Loc nD τ sig) → Buf (Elt F) ℓ)

theorem bodyU (hpre : KTileU.PreOKU m) : KernelStmt.BodyU m :=
  fun d L O W hO => KTileU.tile_body_u m d L facts hpre (negFlatF m d) (KernelFlat.isFlat_negFlatF m d) O W hO (m (pnegLoc d)) (m (urowsLoc d))

theorem bodyV [∀ e, Nonempty (Elt F e)] (hpre : KTileVDefs.PreOKV m) : KernelStmt.BodyV m :=
  KTileVBody.bodyV m hpre

end Cert.Proof.KernelFinal

end
-- ==== Proof.lean ====
/-
  The skip-gram negative-sampling loss, a SparseCore kernel against its reference: the proof of `Cert.Claim`.

  For a batch element `b` let `v = ev[center b]`, `u = eu[ctx b]`, `n_k = eu[neg b k]` (rows of 64). Both programs
  compute `-(1/16384) · ∑ b, (log σ⟨v,u⟩ + ∑ k, log σ(-⟨n_k,u⟩))` (`Cert.Spec.loss`).
  The kernel program is three kernels. On each of 32 vector subcores the first copies the rows `u` and `n_k` of its
  512 batch elements out of the table, row by row, many copies in flight on one semaphore and all awaited before
  any row is read, writes the sixteen-lane partial sums `0 - ∑ t<4, n_k[16t+l]·u[16t+l]` and copies the rows `u` out;
  the second does the same for `v` against the saved `u`; the third, on the TensorCore, sums each group of sixteen
  lanes by a product with a 0/1 matrix, takes `log σ`, sums, and multiplies by `-2⁻¹⁴`. Each inner product is the
  sum of its sixteen lanes' partial sums; a negation crosses a finite sum of reals; the product with `-2⁻¹⁴` is the
  quotient by 16384, negated. The index words lie in `[0, 999999]` and the table entries are real by the
  precondition, which is what the copies' row bounds and the crossing of the negation need.
  The frames and the value come from one run of each program: the kernel program's by the launch theorem over the
  two kernels' tasks at a symbolic subcore and @main on the TensorCore (with the loss kernel's region), at the
  extended reals and, the same text, at words; the reference's by its host operations one after the other.
-/
import proofs.«218857_g62938450756068_cont_9to1c4b_813_41_alg».proof.Defs
import proofs.«218857_g62938450756068_cont_9to1c4b_813_41_alg».proof.Proof.Assembly
import proofs.«218857_g62938450756068_cont_9to1c4b_813_41_alg».proof.Proof.KernelIdealFinal
import proofs.«218857_g62938450756068_cont_9to1c4b_813_41_alg».proof.Proof.KernelFinal

noncomputable section

namespace Cert.Proof

theorem claim : Cert.Claim :=
  Cert.Proof.Assembly.claim_of_bodies
    (fun m h => Cert.Proof.KernelIdealFinal.bodyU m h) (fun m h => Cert.Proof.KernelIdealFinal.bodyV m h)
    (fun m h => Cert.Proof.KernelFinal.bodyU m h) (fun m h => Cert.Proof.KernelFinal.bodyV m h)

end Cert.Proof

end
